-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x320000 : S_.BroadcastsInDim S2x320000 (![] : Fin 0 → Fin S2x320000.rank)
  reducesTo_S2x320000_S_d0_1 : S2x320000.ReducesTo [0, 1] S_

variable [Facts]

def fn_part4 {F : FTy → Type} [FloatOps F] (main_v63 : IVec S_ 1) (main_v65 : IVec S2x320000 1) (main_v67 : IVec S2x320000 1) : IVec S_ 1 :=
  let main_v68 : IVec S2x320000 1 := andi main_v65 main_v67
  let main_c_26 : IVec S_ 1 := constantI S_ 1 1#1
  let main_v69 : IVec S_ 1 := (fun x v => Host.reduce IntOp.andi x v reducesTo_S2x320000_S_d0_1 h_S_) main_v68 main_c_26
  let main_v70 : IVec S_ 1 := andi main_v63 main_v69
  main_v70

def fn_part3 {F : FTy → Type} [FloatOps F] (main_arg1 : IVec S2x320000 32) (main_arg12 : FVec F S128x128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x320000 32 := broadcastInDim S2x320000 ![] bcast_S_S2x320000 main_c_24
  let main_v65 : IVec S2x320000 1 := cmpi .sge main_arg1 main_v64
  let main_c_25 : IVec S_ 32 := constantI S_ 32 9999#32
  let main_v66 : IVec S2x320000 32 := broadcastInDim S2x320000 ![] bcast_S_S2x320000 main_c_25
  let main_v67 : IVec S2x320000 1 := cmpi .sle main_arg1 main_v66
  fn_part4 (F := F) main_v63 main_v65 main_v67

def fn_part2 {F : FTy → Type} [FloatOps F] (main_arg1 : IVec S2x320000 32) (main_arg8 : FVec F S128x128 .f32) (main_arg9 : FVec F S128 .f32) (main_arg10 : FVec F S128x128 .f32) (main_arg11 : FVec F S128x128 .f32) (main_arg12 : FVec F S128x128 .f32) (main_arg13 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_v48 main_v49 main_v50

def fn_part1 {F : FTy → Type} [FloatOps F] (main_arg1 : IVec S2x320000 32) (main_arg5 : FVec F S128 .f32) (main_arg6 : FVec F S128x128 .f32) (main_arg7 : FVec F S128x128 .f32) (main_arg8 : FVec F S128x128 .f32) (main_arg9 : FVec F S128 .f32) (main_arg10 : FVec F S128x128 .f32) (main_arg11 : FVec F S128x128 .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S10000x128 .f32) (main_arg1 : IVec S2x320000 32) (main_arg2 : FVec F S128x128 .f32) (main_arg3 : FVec F S128x128 .f32) (main_arg4 : FVec F S128x128 .f32) (main_arg5 : FVec F S128 .f32) (main_arg6 : FVec F S128x128 .f32) (main_arg7 : FVec F S128x128 .f32) (main_arg8 : FVec F S128x128 .f32) (main_arg9 : FVec F S128 .f32) (main_arg10 : FVec F S128x128 .f32) (main_arg11 : FVec F S128x128 .f32) (main_arg12 : FVec F S128x128 .f32) (main_arg13 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S7680 : Shape := ⟨1, ![7680]⟩
abbrev S327680 : Shape := ⟨1, ![327680]⟩
abbrev S32x10240 : Shape := ⟨2, ![32, 10240]⟩
abbrev S32x10496 : Shape := ⟨2, ![32, 10496]⟩
abbrev S1 : Shape := ⟨1, ![1]⟩
abbrev S10240x128 : Shape := ⟨2, ![10240, 128]⟩
abbrev S10496 : Shape := ⟨1, ![10496]⟩
abbrev S2x128x128 : Shape := ⟨3, ![2, 128, 128]⟩
abbrev S2x4x128 : Shape := ⟨3, ![2, 4, 128]⟩
abbrev S2 : Shape := ⟨1, ![2]⟩
abbrev S1x10496 : Shape := ⟨2, ![1, 10496]⟩
abbrev S1x128x128 : Shape := ⟨3, ![1, 128, 128]⟩
abbrev S1x4x128 : Shape := ⟨3, ![1, 4, 128]⟩
abbrev S4x128 : Shape := ⟨2, ![4, 128]⟩
abbrev S1x1x16 : Shape := ⟨3, ![1, 1, 16]⟩
abbrev S16 : Shape := ⟨1, ![16]⟩
abbrev S2000x128 : Shape := ⟨2, ![2000, 128]⟩
abbrev S1x128 : Shape := ⟨2, ![1, 128]⟩

abbrev nBuf : Table → Nat
  | .hbm => 37
  | .local .tc .vmem => 38
  | .shared => 3
  | .local .scVector .vmem => 9
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S1x320000, .i32⟩
  | .hbm, ⟨15, _⟩ => ⟨S320000, .i32⟩
  | .hbm, ⟨16, _⟩ => ⟨S_, .i32⟩
  | .hbm, ⟨17, _⟩ => ⟨S7680, .i32⟩
  | .hbm, ⟨18, _⟩ => ⟨S327680, .i32⟩
  | .hbm, ⟨19, _⟩ => ⟨S32x10240, .i32⟩
  | .hbm, ⟨20, _⟩ => ⟨S_, .i32⟩
  | .hbm, ⟨21, _⟩ => ⟨S32x10496, .i32⟩
  | .hbm, ⟨22, _⟩ => ⟨S_, .i32⟩
  | .hbm, ⟨23, _⟩ => ⟨S1, .i32⟩
  | .hbm, ⟨24, _⟩ => ⟨S32x10496, .i32⟩
  | .hbm, ⟨25, _⟩ => ⟨S10240x128, .f32⟩
  | .hbm, ⟨26, _⟩ => ⟨S10000x128, .f32⟩
  | .hbm, ⟨27, _⟩ => ⟨S1x128, .f32⟩
  | .hbm, ⟨28, _⟩ => ⟨S10000x128, .f32⟩
  | .hbm, ⟨29, _⟩ => ⟨S10000x128, .f32⟩
  | .hbm, ⟨30, _⟩ => ⟨S10240x128, .f32⟩
  | .hbm, ⟨31, _⟩ => ⟨S1x128, .f32⟩
  | .hbm, ⟨32, _⟩ => ⟨S10000x128, .f32⟩
  | .hbm, ⟨33, _⟩ => ⟨S10000x128, .f32⟩
  | .hbm, ⟨34, _⟩ => ⟨S10240x128, .f32⟩
  | .hbm, ⟨35, _⟩ => ⟨S1x128, .f32⟩
  | .hbm, ⟨36, _⟩ => ⟨S10000x128, .f32⟩
  | .local .tc .vmem, ⟨0, _⟩ => ⟨S2000x128, .f32⟩
  | .local .tc .vmem, ⟨1, _⟩ => ⟨S2000x128, .f32⟩
  | .local .tc .vmem, ⟨2, _⟩ => ⟨S128x128, .f32⟩
  | .local .tc .vmem, ⟨3, _⟩ => ⟨S128x128, .f32⟩
  | .local .tc .vmem, ⟨4, _⟩ => ⟨S2000x128, .f32⟩
  | .local .tc .vmem, ⟨5, _⟩ => ⟨S2000x128, .f32⟩
  | .local .tc .vmem, ⟨6, _⟩ => ⟨S2000x128, .f32⟩
  | .local .tc .vmem, ⟨7, _⟩ => ⟨S2000x128, .f32⟩
  | .local .tc .vmem, ⟨8, _⟩ => ⟨S2000x128, .f32⟩
  | .local .tc .vmem, ⟨9, _⟩ => ⟨S2000x128, .f32⟩
  | .local .tc .vmem, ⟨10, _⟩ => ⟨S128x128, .f32⟩
  | .local .tc .vmem, ⟨11, _⟩ => ⟨S1x128, .f32⟩
  | .local .tc .vmem, ⟨12, _⟩ => ⟨S128x128, .f32⟩
  | .local .tc .vmem, ⟨13, _⟩ => ⟨S128x128, .f32⟩
  | .local .tc .vmem, ⟨14, _⟩ => ⟨S2000x128, .f32⟩
  | .local .tc .vmem, ⟨15, _⟩ => ⟨S2000x128, .f32⟩
  | .local .tc .vmem, ⟨16, _⟩ => ⟨S2000x128, .f32⟩
  | .local .tc .vmem, ⟨17, _⟩ => ⟨S2000x128, .f32⟩
  | .local .tc .vmem, ⟨18, _⟩ => ⟨S2000x128, .f32⟩
  | .local .tc .vmem, ⟨19, _⟩ => ⟨S2000x128, .f32⟩
  | .local .tc .vmem, ⟨20, _⟩ => ⟨S2000x128, .f32⟩
  | .local .tc .vmem, ⟨21, _⟩ => ⟨S2000x128, .f32⟩
  | .local .tc .vmem, ⟨22, _⟩ => ⟨S128x128, .f32⟩
  | .local .tc .vmem, ⟨23, _⟩ => ⟨S1x128, .f32⟩
  | .local .tc .vmem, ⟨24, _⟩ => ⟨S128x128, .f32⟩
  | .local .tc .vmem, ⟨25, _⟩ => ⟨S128x128, .f32⟩
  | .local .tc .vmem, ⟨26, _⟩ => ⟨S2000x128, .f32⟩
  | .local .tc .vmem, ⟨27, _⟩ => ⟨S2000x128, .f32⟩
  | .local .tc .vmem, ⟨28, _⟩ => ⟨S2000x128, .f32⟩
  | .local .tc .vmem, ⟨29, _⟩ => ⟨S2000x128, .f32⟩
  | .local .tc .vmem, ⟨30, _⟩ => ⟨S2000x128, .f32⟩
  | .local .tc .vmem, ⟨31, _⟩ => ⟨S2000x128, .f32⟩
  | .local .tc .vmem, ⟨32, _⟩ => ⟨S2000x128, .f32⟩
  | .local .tc .vmem, ⟨33, _⟩ => ⟨S2000x128, .f32⟩
  | .local .tc .vmem, ⟨34, _⟩ => ⟨S128x128, .f32⟩
  | .local .tc .vmem, ⟨35, _⟩ => ⟨S1x128, .f32⟩
  | .local .tc .vmem, ⟨36, _⟩ => ⟨S2000x128, .f32⟩
  | .local .tc .vmem, ⟨37, _⟩ => ⟨S2000x128, .f32⟩
  | .shared, ⟨0, _⟩ => ⟨S10000x128, .f32⟩
  | .shared, ⟨1, _⟩ => ⟨S10000x128, .f32⟩
  | .shared, ⟨2, _⟩ => ⟨S10000x128, .f32⟩
  | .local .scVector .vmem, ⟨0, _⟩ => ⟨S10496, .i32⟩
  | .local .scVector .vmem, ⟨1, _⟩ => ⟨S2x128x128, .f32⟩
  | .local .scVector .vmem, ⟨2, _⟩ => ⟨S2x4x128, .f32⟩
  | .local .scVector .vmem, ⟨3, _⟩ => ⟨S10496, .i32⟩
  | .local .scVector .vmem, ⟨4, _⟩ => ⟨S2x128x128, .f32⟩
  | .local .scVector .vmem, ⟨5, _⟩ => ⟨S2x4x128, .f32⟩
  | .local .scVector .vmem, ⟨6, _⟩ => ⟨S10496, .i32⟩
  | .local .scVector .vmem, ⟨7, _⟩ => ⟨S2x128x128, .f32⟩
  | .local .scVector .vmem, ⟨8, _⟩ => ⟨S2x4x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 56 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => false
  | ⟨25, _⟩ => false
  | ⟨26, _⟩ => false
  | ⟨27, _⟩ => false
  | ⟨28, _⟩ => false
  | ⟨29, _⟩ => false
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => false
  | ⟨43, _⟩ => false
  | ⟨44, _⟩ => false
  | ⟨45, _⟩ => false
  | ⟨46, _⟩ => false
  | ⟨47, _⟩ => false
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTables nBuf rfl bufTy 5 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_arg0_scv : Ref sig .scVector := ⟨.hbm, 0, rfl⟩
abbrev main_v7_scv : Ref sig .scVector := ⟨.hbm, 24, rfl⟩
abbrev main_v8_scv : Ref sig .scVector := ⟨.hbm, 25, rfl⟩
abbrev main_v11_0_scv : Ref sig .scVector := ⟨.hbm, 28, rfl⟩
abbrev main_v12_scv : Ref sig .scVector := ⟨.hbm, 30, rfl⟩
abbrev main_v14_0_scv : Ref sig .scVector := ⟨.hbm, 32, rfl⟩
abbrev main_v15_scv : Ref sig .scVector := ⟨.hbm, 34, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg6_1 : Ref sig .tc := ⟨.vmem, 15, rfl⟩
abbrev cc2_stg7_0 : Ref sig .tc := ⟨.vmem, 16, rfl⟩
abbrev cc2_stg7_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg1_1 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc4_stg6_0 : Ref sig .tc := ⟨.vmem, 26, rfl⟩
abbrev cc4_stg6_1 : Ref sig .tc := ⟨.vmem, 27, rfl⟩
abbrev cc4_stg7_0 : Ref sig .tc := ⟨.vmem, 28, rfl⟩
abbrev cc4_stg7_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc6_stg4_0 : Ref sig .tc := ⟨.vmem, 36, rfl⟩
abbrev cc6_stg4_1 : Ref sig .tc := ⟨.vmem, 37, rfl⟩
abbrev cc0_scratch3 : Ref sig .scVector := ⟨.shared, 0, rfl⟩
abbrev cc3_scratch3 : Ref sig .scVector := ⟨.shared, 1, rfl⟩
abbrev cc5_scratch3 : Ref sig .scVector := ⟨.shared, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc5_scratch0 : Ref sig .scVector := ⟨.vmem, 6, rfl⟩
abbrev cc5_scratch1 : Ref sig .scVector := ⟨.vmem, 7, rfl⟩
abbrev cc5_scratch2 : Ref sig .scVector := ⟨.vmem, 8, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc2_sem7_0 : DmaSem sig := 22
abbrev cc2_sem7_1 : DmaSem sig := 23
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39
abbrev cc4_sem7_0 : DmaSem sig := 40
abbrev cc4_sem7_1 : DmaSem sig := 41
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_49_r0 : BitVec 32 := 0#32
  ![v1.toNat, 0]
def k0_off2 (i : grid0.Coords) : (Fin 2 → Nat) × (Fin 2 → Nat) :=
  let arg1 : BitVec 32 := BitVec.ofNat 32 (i 1).val
  let c624_i32_1 : BitVec 32 := 624#32
  let v6 : BitVec 32 := Scalar.muli arg1 c624_i32_1
  let c0_i32_49_r1 : BitVec 32 := 0#32
  let c15_i32 : BitVec 32 := 15#32
  let v3 : BitVec 1 := Scalar.cmpi .eq arg1 c15_i32
  let c640_i32 : BitVec 32 := 640#32
  let c624_i32 : BitVec 32 := 624#32
  let v4 : BitVec 32 := Scalar.select v3 c640_i32 c624_i32
  ⟨![v6.toNat, 0], ![v4.toNat, 128]⟩
@[reducible] def k0_t1_loop : Scf.Loop 32 :=
  let c0_i32_14 : BitVec 32 := 0#32
  let c40_i32 : BitVec 32 := 40#32
  let v19 : BitVec 32 := Scalar.addi c0_i32_14 c40_i32
  let c1_i32_15 : BitVec 32 := 1#32
  ⟨c0_i32_14, v19, c1_i32_15⟩
def k0_cond1 (k0_t1 : Fin k0_t1_loop.trips) : BitVec 1 :=
  let c0_i32_14 : BitVec 32 := 0#32
  let c1_i32_15 : BitVec 32 := 1#32
  let arg11 : BitVec 32 := Scf.iv c0_i32_14 c1_i32_15 k0_t1
  let c0_i32_58 : BitVec 32 := 0#32
  let v58 : BitVec 1 := Scalar.cmpi .sgt arg11 c0_i32_58
  let v59 : BitVec 32 := Scalar.extui v58
  let c0_i32_59 : BitVec 32 := 0#32
  let v60 : BitVec 1 := Scalar.cmpi .ne v59 c0_i32_59
  v60

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_14 : BitVec 32 := 0#32
  let c1_i32_15 : BitVec 32 := 1#32
  let arg11 : BitVec 32 := Scf.iv c0_i32_14 c1_i32_15 k0_t1
  let c2_i32_49 : BitVec 32 := 2#32
  let v50 : BitVec 32 := Scalar.muli arg11 c2_i32_49
  let c0_i32_50 : BitVec 32 := 0#32
  let v51 : BitVec 32 := Scalar.addi v50 c0_i32_50
  let c4_i32_114 : BitVec 32 := 4#32
  let v110 : BitVec 32 := Scalar.muli v51 c4_i32_114
  let v111 : BitVec 32 := Scalar.addi v2 v110
  let c0_i32_119 : BitVec 32 := 0#32
  ![v111.toNat, 0]
@[reducible] def k0_t2_loop : Scf.Loop 32 :=
  let c0_i32_61 : BitVec 32 := 0#32
  let c4_i32 : BitVec 32 := 4#32
  let v61 : BitVec 32 := Scalar.addi c0_i32_61 c4_i32
  let c1_i32_62 : BitVec 32 := 1#32
  ⟨c0_i32_61, v61, c1_i32_62⟩
def k0_off4 (k0_t2 : Fin k0_t2_loop.trips) (c0_i32_114 : BitVec 32) : Fin 3 → Nat :=
  let c0_i32_115 : BitVec 32 := 0#32
  let v112 : Index := Scalar.indexCast c0_i32_115
  let c0_i32_61 : BitVec 32 := 0#32
  let c1_i32_62 : BitVec 32 := 1#32
  let arg12 : BitVec 32 := Scf.iv c0_i32_61 c1_i32_62 k0_t2
  let c32_i32 : BitVec 32 := 32#32
  let v110 : BitVec 32 := Scalar.muli arg12 c32_i32
  let v111 : BitVec 32 := Scalar.addi v110 c0_i32_114
  let v113 : Index := Scalar.indexCast v111
  let c0_116 : Index := 0#32
  ![0, v113.toNat, 0]
def k0_off5 (k0_t2 : Fin k0_t2_loop.trips) : Fin 3 → Nat :=
  let c0_i32_183 : BitVec 32 := 0#32
  let v302 : Index := Scalar.indexCast c0_i32_183
  let c0_i32_61 : BitVec 32 := 0#32
  let c1_i32_62 : BitVec 32 := 1#32
  let arg12 : BitVec 32 := Scf.iv c0_i32_61 c1_i32_62 k0_t2
  let v303 : Index := Scalar.indexCast arg12
  let c0_184 : Index := 0#32
  ![0, v303.toNat, 0]
def k0_off6 (k0_t2 : Fin k0_t2_loop.trips) (c0_i32_185 : BitVec 32) : Fin 3 → Nat :=
  let c0_i32_186 : BitVec 32 := 0#32
  let v308 : Index := Scalar.indexCast c0_i32_186
  let c0_i32_61 : BitVec 32 := 0#32
  let c1_i32_62 : BitVec 32 := 1#32
  let arg12 : BitVec 32 := Scf.iv c0_i32_61 c1_i32_62 k0_t2
  let c32_i32 : BitVec 32 := 32#32
  let v110 : BitVec 32 := Scalar.muli arg12 c32_i32
  let v307 : BitVec 32 := Scalar.addi v110 c0_i32_185
  let v309 : Index := Scalar.indexCast v307
  let c16 : Index := 16#32
  ![0, v309.toNat, 16]
def k0_off7 (k0_t2 : Fin k0_t2_loop.trips) : Fin 3 → Nat :=
  let c0_i32_280 : BitVec 32 := 0#32
  let v498 : Index := Scalar.indexCast c0_i32_280
  let c0_i32_61 : BitVec 32 := 0#32
  let c1_i32_62 : BitVec 32 := 1#32
  let arg12 : BitVec 32 := Scf.iv c0_i32_61 c1_i32_62 k0_t2
  let v499 : Index := Scalar.indexCast arg12
  let c16_281 : Index := 16#32
  ![0, v499.toNat, 16]
def k0_off8 (k0_t2 : Fin k0_t2_loop.trips) (c0_i32_282 : BitVec 32) : Fin 3 → Nat :=
  let c0_i32_283 : BitVec 32 := 0#32
  let v504 : Index := Scalar.indexCast c0_i32_283
  let c0_i32_61 : BitVec 32 := 0#32
  let c1_i32_62 : BitVec 32 := 1#32
  let arg12 : BitVec 32 := Scf.iv c0_i32_61 c1_i32_62 k0_t2
  let c32_i32 : BitVec 32 := 32#32
  let v110 : BitVec 32 := Scalar.muli arg12 c32_i32
  let v503 : BitVec 32 := Scalar.addi v110 c0_i32_282
  let v505 : Index := Scalar.indexCast v503
  let c32 : Index := 32#32
  ![0, v505.toNat, 32]
def k0_off9 (k0_t2 : Fin k0_t2_loop.trips) : Fin 3 → Nat :=
  let c0_i32_377 : BitVec 32 := 0#32
  let v694 : Index := Scalar.indexCast c0_i32_377
  let c0_i32_61 : BitVec 32 := 0#32
  let c1_i32_62 : BitVec 32 := 1#32
  let arg12 : BitVec 32 := Scf.iv c0_i32_61 c1_i32_62 k0_t2
  let v695 : Index := Scalar.indexCast arg12
  let c32_378 : Index := 32#32
  ![0, v695.toNat, 32]
def k0_off10 (k0_t2 : Fin k0_t2_loop.trips) (c0_i32_379 : BitVec 32) : Fin 3 → Nat :=
  let c0_i32_380 : BitVec 32 := 0#32
  let v700 : Index := Scalar.indexCast c0_i32_380
  let c0_i32_61 : BitVec 32 := 0#32
  let c1_i32_62 : BitVec 32 := 1#32
  let arg12 : BitVec 32 := Scf.iv c0_i32_61 c1_i32_62 k0_t2
  let c32_i32 : BitVec 32 := 32#32
  let v110 : BitVec 32 := Scalar.muli arg12 c32_i32
  let v699 : BitVec 32 := Scalar.addi v110 c0_i32_379
  let v701 : Index := Scalar.indexCast v699
  let c48 : Index := 48#32
  ![0, v701.toNat, 48]
def k0_off11 (k0_t2 : Fin k0_t2_loop.trips) : Fin 3 → Nat :=
  let c0_i32_474 : BitVec 32 := 0#32
  let v890 : Index := Scalar.indexCast c0_i32_474
  let c0_i32_61 : BitVec 32 := 0#32
  let c1_i32_62 : BitVec 32 := 1#32
  let arg12 : BitVec 32 := Scf.iv c0_i32_61 c1_i32_62 k0_t2
  let v891 : Index := Scalar.indexCast arg12
  let c48_475 : Index := 48#32
  ![0, v891.toNat, 48]
def k0_off12 (k0_t2 : Fin k0_t2_loop.trips) (c0_i32_476 : BitVec 32) : Fin 3 → Nat :=
  let c0_i32_477 : BitVec 32 := 0#32
  let v896 : Index := Scalar.indexCast c0_i32_477
  let c0_i32_61 : BitVec 32 := 0#32
  let c1_i32_62 : BitVec 32 := 1#32
  let arg12 : BitVec 32 := Scf.iv c0_i32_61 c1_i32_62 k0_t2
  let c32_i32 : BitVec 32 := 32#32
  let v110 : BitVec 32 := Scalar.muli arg12 c32_i32
  let v895 : BitVec 32 := Scalar.addi v110 c0_i32_476
  let v897 : Index := Scalar.indexCast v895
  let c64 : Index := 64#32
  ![0, v897.toNat, 64]
def k0_off13 (k0_t2 : Fin k0_t2_loop.trips) : Fin 3 → Nat :=
  let c0_i32_571 : BitVec 32 := 0#32
  let v1086 : Index := Scalar.indexCast c0_i32_571
  let c0_i32_61 : BitVec 32 := 0#32
  let c1_i32_62 : BitVec 32 := 1#32
  let arg12 : BitVec 32 := Scf.iv c0_i32_61 c1_i32_62 k0_t2
  let v1087 : Index := Scalar.indexCast arg12
  let c64_572 : Index := 64#32
  ![0, v1087.toNat, 64]
def k0_off14 (k0_t2 : Fin k0_t2_loop.trips) (c0_i32_573 : BitVec 32) : Fin 3 → Nat :=
  let c0_i32_574 : BitVec 32 := 0#32
  let v1092 : Index := Scalar.indexCast c0_i32_574
  let c0_i32_61 : BitVec 32 := 0#32
  let c1_i32_62 : BitVec 32 := 1#32
  let arg12 : BitVec 32 := Scf.iv c0_i32_61 c1_i32_62 k0_t2
  let c32_i32 : BitVec 32 := 32#32
  let v110 : BitVec 32 := Scalar.muli arg12 c32_i32
  let v1091 : BitVec 32 := Scalar.addi v110 c0_i32_573
  let v1093 : Index := Scalar.indexCast v1091
  let c80 : Index := 80#32
  ![0, v1093.toNat, 80]
def k0_off15 (k0_t2 : Fin k0_t2_loop.trips) : Fin 3 → Nat :=
  let c0_i32_668 : BitVec 32 := 0#32
  let v1282 : Index := Scalar.indexCast c0_i32_668
  let c0_i32_61 : BitVec 32 := 0#32
  let c1_i32_62 : BitVec 32 := 1#32
  let arg12 : BitVec 32 := Scf.iv c0_i32_61 c1_i32_62 k0_t2
  let v1283 : Index := Scalar.indexCast arg12
  let c80_669 : Index := 80#32
  ![0, v1283.toNat, 80]
def k0_off16 (k0_t2 : Fin k0_t2_loop.trips) (c0_i32_670 : BitVec 32) : Fin 3 → Nat :=
  let c0_i32_671 : BitVec 32 := 0#32
  let v1288 : Index := Scalar.indexCast c0_i32_671
  let c0_i32_61 : BitVec 32 := 0#32
  let c1_i32_62 : BitVec 32 := 1#32
  let arg12 : BitVec 32 := Scf.iv c0_i32_61 c1_i32_62 k0_t2
  let c32_i32 : BitVec 32 := 32#32
  let v110 : BitVec 32 := Scalar.muli arg12 c32_i32
  let v1287 : BitVec 32 := Scalar.addi v110 c0_i32_670
  let v1289 : Index := Scalar.indexCast v1287
  let c96 : Index := 96#32
  ![0, v1289.toNat, 96]
def k0_off17 (k0_t2 : Fin k0_t2_loop.trips) : Fin 3 → Nat :=
  let c0_i32_765 : BitVec 32 := 0#32
  let v1478 : Index := Scalar.indexCast c0_i32_765
  let c0_i32_61 : BitVec 32 := 0#32
  let c1_i32_62 : BitVec 32 := 1#32
  let arg12 : BitVec 32 := Scf.iv c0_i32_61 c1_i32_62 k0_t2
  let v1479 : Index := Scalar.indexCast arg12
  let c96_766 : Index := 96#32
  ![0, v1479.toNat, 96]
def k0_off18 (k0_t2 : Fin k0_t2_loop.trips) (c0_i32_767 : BitVec 32) : Fin 3 → Nat :=
  let c0_i32_768 : BitVec 32 := 0#32
  let v1484 : Index := Scalar.indexCast c0_i32_768
  let c0_i32_61 : BitVec 32 := 0#32
  let c1_i32_62 : BitVec 32 := 1#32
  let arg12 : BitVec 32 := Scf.iv c0_i32_61 c1_i32_62 k0_t2
  let c32_i32 : BitVec 32 := 32#32
  let v110 : BitVec 32 := Scalar.muli arg12 c32_i32
  let v1483 : BitVec 32 := Scalar.addi v110 c0_i32_767
  let v1485 : Index := Scalar.indexCast v1483
  let c112 : Index := 112#32
  ![0, v1485.toNat, 112]
def k0_off19 (k0_t2 : Fin k0_t2_loop.trips) : Fin 3 → Nat :=
  let c0_i32_862 : BitVec 32 := 0#32
  let v1674 : Index := Scalar.indexCast c0_i32_862
  let c0_i32_61 : BitVec 32 := 0#32
  let c1_i32_62 : BitVec 32 := 1#32
  let arg12 : BitVec 32 := Scf.iv c0_i32_61 c1_i32_62 k0_t2
  let v1675 : Index := Scalar.indexCast arg12
  let c112_863 : Index := 112#32
  ![0, v1675.toNat, 112]
def k0_off20 (i : grid0.Coords) (k0_t1 : Fin k0_t1_loop.trips) (c0_i32_50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_14 : BitVec 32 := 0#32
  let c1_i32_15 : BitVec 32 := 1#32
  let arg11 : BitVec 32 := Scf.iv c0_i32_14 c1_i32_15 k0_t1
  let c2_i32_49 : BitVec 32 := 2#32
  let v50 : BitVec 32 := Scalar.muli arg11 c2_i32_49
  let v51 : BitVec 32 := Scalar.addi v50 c0_i32_50
  let c4_i32_64 : BitVec 32 := 4#32
  let v62 : BitVec 32 := Scalar.muli v51 c4_i32_64
  let v63 : BitVec 32 := Scalar.addi v2 v62
  let c0_i32_69 : BitVec 32 := 0#32
  ![v63.toNat, 0]
def k0_off21 (k0_t1 : Fin k0_t1_loop.trips) (c0_i32_50 : BitVec 32) : Fin 1 → Nat :=
  let c0_i32_14 : BitVec 32 := 0#32
  let c1_i32_15 : BitVec 32 := 1#32
  let arg11 : BitVec 32 := Scf.iv c0_i32_14 c1_i32_15 k0_t1
  let c2_i32_49 : BitVec 32 := 2#32
  let v50 : BitVec 32 := Scalar.muli arg11 c2_i32_49
  let v51 : BitVec 32 := Scalar.addi v50 c0_i32_50
  let c2_i32_73 : BitVec 32 := 2#32
  let v72 : BitVec 32 := Scalar.addi v51 c2_i32_73
  let c128_i32_74 : BitVec 32 := 128#32
  let v73 : BitVec 32 := Scalar.muli v72 c128_i32_74
  ![v73.toNat]
def k0_cond2 (k0_t1 : Fin k0_t1_loop.trips) : BitVec 1 :=
  let c0_i32_14 : BitVec 32 := 0#32
  let c1_i32_15 : BitVec 32 := 1#32
  let arg11 : BitVec 32 := Scf.iv c0_i32_14 c1_i32_15 k0_t1
  let c0_i32_90 : BitVec 32 := 0#32
  let v88 : BitVec 1 := Scalar.cmpi .sgt arg11 c0_i32_90
  let v89 : BitVec 32 := Scalar.extui v88
  let c0_i32_91 : BitVec 32 := 0#32
  let v90 : BitVec 1 := Scalar.cmpi .ne v89 c0_i32_91
  v90

def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_14 : BitVec 32 := 0#32
  let c1_i32_15 : BitVec 32 := 1#32
  let arg11 : BitVec 32 := Scf.iv c0_i32_14 c1_i32_15 k0_t1
  let c2_i32_81 : BitVec 32 := 2#32
  let v80 : BitVec 32 := Scalar.muli arg11 c2_i32_81
  let c1_i32_82 : BitVec 32 := 1#32
  let v81 : BitVec 32 := Scalar.addi v80 c1_i32_82
  let c4_i32_114 : BitVec 32 := 4#32
  let v110 : BitVec 32 := Scalar.muli v81 c4_i32_114
  let v111 : BitVec 32 := Scalar.addi v2 v110
  let c0_i32_119 : BitVec 32 := 0#32
  ![v111.toNat, 0]
@[reducible] def k0_t3_loop : Scf.Loop 32 :=
  let c0_i32_93 : BitVec 32 := 0#32
  let c4_i32_94 : BitVec 32 := 4#32
  let v91 : BitVec 32 := Scalar.addi c0_i32_93 c4_i32_94
  let c1_i32_95 : BitVec 32 := 1#32
  ⟨c0_i32_93, v91, c1_i32_95⟩
def k0_off23 (k0_t3 : Fin k0_t3_loop.trips) (c0_i32_114 : BitVec 32) : Fin 3 → Nat :=
  let c1_i32_115 : BitVec 32 := 1#32
  let v112 : Index := Scalar.indexCast c1_i32_115
  let c0_i32_93 : BitVec 32 := 0#32
  let c1_i32_95 : BitVec 32 := 1#32
  let arg12 : BitVec 32 := Scf.iv c0_i32_93 c1_i32_95 k0_t3
  let c32_i32 : BitVec 32 := 32#32
  let v110 : BitVec 32 := Scalar.muli arg12 c32_i32
  let v111 : BitVec 32 := Scalar.addi v110 c0_i32_114
  let v113 : Index := Scalar.indexCast v111
  let c0_116 : Index := 0#32
  ![1, v113.toNat, 0]
def k0_off24 (k0_t3 : Fin k0_t3_loop.trips) : Fin 3 → Nat :=
  let c1_i32_183 : BitVec 32 := 1#32
  let v302 : Index := Scalar.indexCast c1_i32_183
  let c0_i32_93 : BitVec 32 := 0#32
  let c1_i32_95 : BitVec 32 := 1#32
  let arg12 : BitVec 32 := Scf.iv c0_i32_93 c1_i32_95 k0_t3
  let v303 : Index := Scalar.indexCast arg12
  let c0_184 : Index := 0#32
  ![1, v303.toNat, 0]
def k0_off25 (k0_t3 : Fin k0_t3_loop.trips) (c0_i32_185 : BitVec 32) : Fin 3 → Nat :=
  let c1_i32_186 : BitVec 32 := 1#32
  let v308 : Index := Scalar.indexCast c1_i32_186
  let c0_i32_93 : BitVec 32 := 0#32
  let c1_i32_95 : BitVec 32 := 1#32
  let arg12 : BitVec 32 := Scf.iv c0_i32_93 c1_i32_95 k0_t3
  let c32_i32 : BitVec 32 := 32#32
  let v110 : BitVec 32 := Scalar.muli arg12 c32_i32
  let v307 : BitVec 32 := Scalar.addi v110 c0_i32_185
  let v309 : Index := Scalar.indexCast v307
  let c16 : Index := 16#32
  ![1, v309.toNat, 16]
def k0_off26 (k0_t3 : Fin k0_t3_loop.trips) : Fin 3 → Nat :=
  let c1_i32_280 : BitVec 32 := 1#32
  let v498 : Index := Scalar.indexCast c1_i32_280
  let c0_i32_93 : BitVec 32 := 0#32
  let c1_i32_95 : BitVec 32 := 1#32
  let arg12 : BitVec 32 := Scf.iv c0_i32_93 c1_i32_95 k0_t3
  let v499 : Index := Scalar.indexCast arg12
  let c16_281 : Index := 16#32
  ![1, v499.toNat, 16]
def k0_off27 (k0_t3 : Fin k0_t3_loop.trips) (c0_i32_282 : BitVec 32) : Fin 3 → Nat :=
  let c1_i32_283 : BitVec 32 := 1#32
  let v504 : Index := Scalar.indexCast c1_i32_283
  let c0_i32_93 : BitVec 32 := 0#32
  let c1_i32_95 : BitVec 32 := 1#32
  let arg12 : BitVec 32 := Scf.iv c0_i32_93 c1_i32_95 k0_t3
  let c32_i32 : BitVec 32 := 32#32
  let v110 : BitVec 32 := Scalar.muli arg12 c32_i32
  let v503 : BitVec 32 := Scalar.addi v110 c0_i32_282
  let v505 : Index := Scalar.indexCast v503
  let c32 : Index := 32#32
  ![1, v505.toNat, 32]
def k0_off28 (k0_t3 : Fin k0_t3_loop.trips) : Fin 3 → Nat :=
  let c1_i32_377 : BitVec 32 := 1#32
  let v694 : Index := Scalar.indexCast c1_i32_377
  let c0_i32_93 : BitVec 32 := 0#32
  let c1_i32_95 : BitVec 32 := 1#32
  let arg12 : BitVec 32 := Scf.iv c0_i32_93 c1_i32_95 k0_t3
  let v695 : Index := Scalar.indexCast arg12
  let c32_378 : Index := 32#32
  ![1, v695.toNat, 32]
def k0_off29 (k0_t3 : Fin k0_t3_loop.trips) (c0_i32_379 : BitVec 32) : Fin 3 → Nat :=
  let c1_i32_380 : BitVec 32 := 1#32
  let v700 : Index := Scalar.indexCast c1_i32_380
  let c0_i32_93 : BitVec 32 := 0#32
  let c1_i32_95 : BitVec 32 := 1#32
  let arg12 : BitVec 32 := Scf.iv c0_i32_93 c1_i32_95 k0_t3
  let c32_i32 : BitVec 32 := 32#32
  let v110 : BitVec 32 := Scalar.muli arg12 c32_i32
  let v699 : BitVec 32 := Scalar.addi v110 c0_i32_379
  let v701 : Index := Scalar.indexCast v699
  let c48 : Index := 48#32
  ![1, v701.toNat, 48]
def k0_off30 (k0_t3 : Fin k0_t3_loop.trips) : Fin 3 → Nat :=
  let c1_i32_474 : BitVec 32 := 1#32
  let v890 : Index := Scalar.indexCast c1_i32_474
  let c0_i32_93 : BitVec 32 := 0#32
  let c1_i32_95 : BitVec 32 := 1#32
  let arg12 : BitVec 32 := Scf.iv c0_i32_93 c1_i32_95 k0_t3
  let v891 : Index := Scalar.indexCast arg12
  let c48_475 : Index := 48#32
  ![1, v891.toNat, 48]
def k0_off31 (k0_t3 : Fin k0_t3_loop.trips) (c0_i32_476 : BitVec 32) : Fin 3 → Nat :=
  let c1_i32_477 : BitVec 32 := 1#32
  let v896 : Index := Scalar.indexCast c1_i32_477
  let c0_i32_93 : BitVec 32 := 0#32
  let c1_i32_95 : BitVec 32 := 1#32
  let arg12 : BitVec 32 := Scf.iv c0_i32_93 c1_i32_95 k0_t3
  let c32_i32 : BitVec 32 := 32#32
  let v110 : BitVec 32 := Scalar.muli arg12 c32_i32
  let v895 : BitVec 32 := Scalar.addi v110 c0_i32_476
  let v897 : Index := Scalar.indexCast v895
  let c64 : Index := 64#32
  ![1, v897.toNat, 64]
def k0_off32 (k0_t3 : Fin k0_t3_loop.trips) : Fin 3 → Nat :=
  let c1_i32_571 : BitVec 32 := 1#32
  let v1086 : Index := Scalar.indexCast c1_i32_571
  let c0_i32_93 : BitVec 32 := 0#32
  let c1_i32_95 : BitVec 32 := 1#32
  let arg12 : BitVec 32 := Scf.iv c0_i32_93 c1_i32_95 k0_t3
  let v1087 : Index := Scalar.indexCast arg12
  let c64_572 : Index := 64#32
  ![1, v1087.toNat, 64]
def k0_off33 (k0_t3 : Fin k0_t3_loop.trips) (c0_i32_573 : BitVec 32) : Fin 3 → Nat :=
  let c1_i32_574 : BitVec 32 := 1#32
  let v1092 : Index := Scalar.indexCast c1_i32_574
  let c0_i32_93 : BitVec 32 := 0#32
  let c1_i32_95 : BitVec 32 := 1#32
  let arg12 : BitVec 32 := Scf.iv c0_i32_93 c1_i32_95 k0_t3
  let c32_i32 : BitVec 32 := 32#32
  let v110 : BitVec 32 := Scalar.muli arg12 c32_i32
  let v1091 : BitVec 32 := Scalar.addi v110 c0_i32_573
  let v1093 : Index := Scalar.indexCast v1091
  let c80 : Index := 80#32
  ![1, v1093.toNat, 80]
def k0_off34 (k0_t3 : Fin k0_t3_loop.trips) : Fin 3 → Nat :=
  let c1_i32_668 : BitVec 32 := 1#32
  let v1282 : Index := Scalar.indexCast c1_i32_668
  let c0_i32_93 : BitVec 32 := 0#32
  let c1_i32_95 : BitVec 32 := 1#32
  let arg12 : BitVec 32 := Scf.iv c0_i32_93 c1_i32_95 k0_t3
  let v1283 : Index := Scalar.indexCast arg12
  let c80_669 : Index := 80#32
  ![1, v1283.toNat, 80]
def k0_off35 (k0_t3 : Fin k0_t3_loop.trips) (c0_i32_670 : BitVec 32) : Fin 3 → Nat :=
  let c1_i32_671 : BitVec 32 := 1#32
  let v1288 : Index := Scalar.indexCast c1_i32_671
  let c0_i32_93 : BitVec 32 := 0#32
  let c1_i32_95 : BitVec 32 := 1#32
  let arg12 : BitVec 32 := Scf.iv c0_i32_93 c1_i32_95 k0_t3
  let c32_i32 : BitVec 32 := 32#32
  let v110 : BitVec 32 := Scalar.muli arg12 c32_i32
  let v1287 : BitVec 32 := Scalar.addi v110 c0_i32_670
  let v1289 : Index := Scalar.indexCast v1287
  let c96 : Index := 96#32
  ![1, v1289.toNat, 96]
def k0_off36 (k0_t3 : Fin k0_t3_loop.trips) : Fin 3 → Nat :=
  let c1_i32_765 : BitVec 32 := 1#32
  let v1478 : Index := Scalar.indexCast c1_i32_765
  let c0_i32_93 : BitVec 32 := 0#32
  let c1_i32_95 : BitVec 32 := 1#32
  let arg12 : BitVec 32 := Scf.iv c0_i32_93 c1_i32_95 k0_t3
  let v1479 : Index := Scalar.indexCast arg12
  let c96_766 : Index := 96#32
  ![1, v1479.toNat, 96]
def k0_off37 (k0_t3 : Fin k0_t3_loop.trips) (c0_i32_767 : BitVec 32) : Fin 3 → Nat :=
  let c1_i32_768 : BitVec 32 := 1#32
  let v1484 : Index := Scalar.indexCast c1_i32_768
  let c0_i32_93 : BitVec 32 := 0#32
  let c1_i32_95 : BitVec 32 := 1#32
  let arg12 : BitVec 32 := Scf.iv c0_i32_93 c1_i32_95 k0_t3
  let c32_i32 : BitVec 32 := 32#32
  let v110 : BitVec 32 := Scalar.muli arg12 c32_i32
  let v1483 : BitVec 32 := Scalar.addi v110 c0_i32_767
  let v1485 : Index := Scalar.indexCast v1483
  let c112 : Index := 112#32
  ![1, v1485.toNat, 112]
def k0_off38 (k0_t3 : Fin k0_t3_loop.trips) : Fin 3 → Nat :=
  let c1_i32_862 : BitVec 32 := 1#32
  let v1674 : Index := Scalar.indexCast c1_i32_862
  let c0_i32_93 : BitVec 32 := 0#32
  let c1_i32_95 : BitVec 32 := 1#32
  let arg12 : BitVec 32 := Scf.iv c0_i32_93 c1_i32_95 k0_t3
  let v1675 : Index := Scalar.indexCast arg12
  let c112_863 : Index := 112#32
  ![1, v1675.toNat, 112]
def k0_off39 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_24 : BitVec 32 := 0#32
  let v26 : BitVec 32 := Scalar.addi v2 c0_i32_24
  let c0_i32_29 : BitVec 32 := 0#32
  ![v26.toNat, 0]
abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨2, ![2, 16], ![false, false]⟩

def k3_off1 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_49_r0 : BitVec 32 := 0#32
  ![v1.toNat, 0]
def k3_off2 (i : grid3.Coords) : (Fin 2 → Nat) × (Fin 2 → Nat) :=
  let arg1 : BitVec 32 := BitVec.ofNat 32 (i 1).val
  let c624_i32_1 : BitVec 32 := 624#32
  let v6 : BitVec 32 := Scalar.muli arg1 c624_i32_1
  let c0_i32_49_r1 : BitVec 32 := 0#32
  let c15_i32 : BitVec 32 := 15#32
  let v3 : BitVec 1 := Scalar.cmpi .eq arg1 c15_i32
  let c640_i32 : BitVec 32 := 640#32
  let c624_i32 : BitVec 32 := 624#32
  let v4 : BitVec 32 := Scalar.select v3 c640_i32 c624_i32
  ⟨![v6.toNat, 0], ![v4.toNat, 128]⟩
@[reducible] def k3_t1_loop : Scf.Loop 32 :=
  let c0_i32_14 : BitVec 32 := 0#32
  let c40_i32 : BitVec 32 := 40#32
  let v19 : BitVec 32 := Scalar.addi c0_i32_14 c40_i32
  let c1_i32_15 : BitVec 32 := 1#32
  ⟨c0_i32_14, v19, c1_i32_15⟩
def k3_cond1 (k3_t1 : Fin k3_t1_loop.trips) : BitVec 1 :=
  let c0_i32_14 : BitVec 32 := 0#32
  let c1_i32_15 : BitVec 32 := 1#32
  let arg11 : BitVec 32 := Scf.iv c0_i32_14 c1_i32_15 k3_t1
  let c0_i32_58 : BitVec 32 := 0#32
  let v58 : BitVec 1 := Scalar.cmpi .sgt arg11 c0_i32_58
  let v59 : BitVec 32 := Scalar.extui v58
  let c0_i32_59 : BitVec 32 := 0#32
  let v60 : BitVec 1 := Scalar.cmpi .ne v59 c0_i32_59
  v60

def k3_off3 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_14 : BitVec 32 := 0#32
  let c1_i32_15 : BitVec 32 := 1#32
  let arg11 : BitVec 32 := Scf.iv c0_i32_14 c1_i32_15 k3_t1
  let c2_i32_49 : BitVec 32 := 2#32
  let v50 : BitVec 32 := Scalar.muli arg11 c2_i32_49
  let c0_i32_50 : BitVec 32 := 0#32
  let v51 : BitVec 32 := Scalar.addi v50 c0_i32_50
  let c4_i32_114 : BitVec 32 := 4#32
  let v110 : BitVec 32 := Scalar.muli v51 c4_i32_114
  let v111 : BitVec 32 := Scalar.addi v2 v110
  let c0_i32_119 : BitVec 32 := 0#32
  ![v111.toNat, 0]
@[reducible] def k3_t2_loop : Scf.Loop 32 :=
  let c0_i32_61 : BitVec 32 := 0#32
  let c4_i32 : BitVec 32 := 4#32
  let v61 : BitVec 32 := Scalar.addi c0_i32_61 c4_i32
  let c1_i32_62 : BitVec 32 := 1#32
  ⟨c0_i32_61, v61, c1_i32_62⟩
def k3_off4 (k3_t2 : Fin k3_t2_loop.trips) (c0_i32_114 : BitVec 32) : Fin 3 → Nat :=
  let c0_i32_115 : BitVec 32 := 0#32
  let v112 : Index := Scalar.indexCast c0_i32_115
  let c0_i32_61 : BitVec 32 := 0#32
  let c1_i32_62 : BitVec 32 := 1#32
  let arg12 : BitVec 32 := Scf.iv c0_i32_61 c1_i32_62 k3_t2
  let c32_i32 : BitVec 32 := 32#32
  let v110 : BitVec 32 := Scalar.muli arg12 c32_i32
  let v111 : BitVec 32 := Scalar.addi v110 c0_i32_114
  let v113 : Index := Scalar.indexCast v111
  let c0_116 : Index := 0#32
  ![0, v113.toNat, 0]
def k3_off5 (k3_t2 : Fin k3_t2_loop.trips) : Fin 3 → Nat :=
  let c0_i32_183 : BitVec 32 := 0#32
  let v302 : Index := Scalar.indexCast c0_i32_183
  let c0_i32_61 : BitVec 32 := 0#32
  let c1_i32_62 : BitVec 32 := 1#32
  let arg12 : BitVec 32 := Scf.iv c0_i32_61 c1_i32_62 k3_t2
  let v303 : Index := Scalar.indexCast arg12
  let c0_184 : Index := 0#32
  ![0, v303.toNat, 0]
def k3_off6 (k3_t2 : Fin k3_t2_loop.trips) (c0_i32_185 : BitVec 32) : Fin 3 → Nat :=
  let c0_i32_186 : BitVec 32 := 0#32
  let v308 : Index := Scalar.indexCast c0_i32_186
  let c0_i32_61 : BitVec 32 := 0#32
  let c1_i32_62 : BitVec 32 := 1#32
  let arg12 : BitVec 32 := Scf.iv c0_i32_61 c1_i32_62 k3_t2
  let c32_i32 : BitVec 32 := 32#32
  let v110 : BitVec 32 := Scalar.muli arg12 c32_i32
  let v307 : BitVec 32 := Scalar.addi v110 c0_i32_185
  let v309 : Index := Scalar.indexCast v307
  let c16 : Index := 16#32
  ![0, v309.toNat, 16]
def k3_off7 (k3_t2 : Fin k3_t2_loop.trips) : Fin 3 → Nat :=
  let c0_i32_280 : BitVec 32 := 0#32
  let v498 : Index := Scalar.indexCast c0_i32_280
  let c0_i32_61 : BitVec 32 := 0#32
  let c1_i32_62 : BitVec 32 := 1#32
  let arg12 : BitVec 32 := Scf.iv c0_i32_61 c1_i32_62 k3_t2
  let v499 : Index := Scalar.indexCast arg12
  let c16_281 : Index := 16#32
  ![0, v499.toNat, 16]
def k3_off8 (k3_t2 : Fin k3_t2_loop.trips) (c0_i32_282 : BitVec 32) : Fin 3 → Nat :=
  let c0_i32_283 : BitVec 32 := 0#32
  let v504 : Index := Scalar.indexCast c0_i32_283
  let c0_i32_61 : BitVec 32 := 0#32
  let c1_i32_62 : BitVec 32 := 1#32
  let arg12 : BitVec 32 := Scf.iv c0_i32_61 c1_i32_62 k3_t2
  let c32_i32 : BitVec 32 := 32#32
  let v110 : BitVec 32 := Scalar.muli arg12 c32_i32
  let v503 : BitVec 32 := Scalar.addi v110 c0_i32_282
  let v505 : Index := Scalar.indexCast v503
  let c32 : Index := 32#32
  ![0, v505.toNat, 32]
def k3_off9 (k3_t2 : Fin k3_t2_loop.trips) : Fin 3 → Nat :=
  let c0_i32_377 : BitVec 32 := 0#32
  let v694 : Index := Scalar.indexCast c0_i32_377
  let c0_i32_61 : BitVec 32 := 0#32
  let c1_i32_62 : BitVec 32 := 1#32
  let arg12 : BitVec 32 := Scf.iv c0_i32_61 c1_i32_62 k3_t2
  let v695 : Index := Scalar.indexCast arg12
  let c32_378 : Index := 32#32
  ![0, v695.toNat, 32]
def k3_off10 (k3_t2 : Fin k3_t2_loop.trips) (c0_i32_379 : BitVec 32) : Fin 3 → Nat :=
  let c0_i32_380 : BitVec 32 := 0#32
  let v700 : Index := Scalar.indexCast c0_i32_380
  let c0_i32_61 : BitVec 32 := 0#32
  let c1_i32_62 : BitVec 32 := 1#32
  let arg12 : BitVec 32 := Scf.iv c0_i32_61 c1_i32_62 k3_t2
  let c32_i32 : BitVec 32 := 32#32
  let v110 : BitVec 32 := Scalar.muli arg12 c32_i32
  let v699 : BitVec 32 := Scalar.addi v110 c0_i32_379
  let v701 : Index := Scalar.indexCast v699
  let c48 : Index := 48#32
  ![0, v701.toNat, 48]
def k3_off11 (k3_t2 : Fin k3_t2_loop.trips) : Fin 3 → Nat :=
  let c0_i32_474 : BitVec 32 := 0#32
  let v890 : Index := Scalar.indexCast c0_i32_474
  let c0_i32_61 : BitVec 32 := 0#32
  let c1_i32_62 : BitVec 32 := 1#32
  let arg12 : BitVec 32 := Scf.iv c0_i32_61 c1_i32_62 k3_t2
  let v891 : Index := Scalar.indexCast arg12
  let c48_475 : Index := 48#32
  ![0, v891.toNat, 48]
def k3_off12 (k3_t2 : Fin k3_t2_loop.trips) (c0_i32_476 : BitVec 32) : Fin 3 → Nat :=
  let c0_i32_477 : BitVec 32 := 0#32
  let v896 : Index := Scalar.indexCast c0_i32_477
  let c0_i32_61 : BitVec 32 := 0#32
  let c1_i32_62 : BitVec 32 := 1#32
  let arg12 : BitVec 32 := Scf.iv c0_i32_61 c1_i32_62 k3_t2
  let c32_i32 : BitVec 32 := 32#32
  let v110 : BitVec 32 := Scalar.muli arg12 c32_i32
  let v895 : BitVec 32 := Scalar.addi v110 c0_i32_476
  let v897 : Index := Scalar.indexCast v895
  let c64 : Index := 64#32
  ![0, v897.toNat, 64]
def k3_off13 (k3_t2 : Fin k3_t2_loop.trips) : Fin 3 → Nat :=
  let c0_i32_571 : BitVec 32 := 0#32
  let v1086 : Index := Scalar.indexCast c0_i32_571
  let c0_i32_61 : BitVec 32 := 0#32
  let c1_i32_62 : BitVec 32 := 1#32
  let arg12 : BitVec 32 := Scf.iv c0_i32_61 c1_i32_62 k3_t2
  let v1087 : Index := Scalar.indexCast arg12
  let c64_572 : Index := 64#32
  ![0, v1087.toNat, 64]
def k3_off14 (k3_t2 : Fin k3_t2_loop.trips) (c0_i32_573 : BitVec 32) : Fin 3 → Nat :=
  let c0_i32_574 : BitVec 32 := 0#32
  let v1092 : Index := Scalar.indexCast c0_i32_574
  let c0_i32_61 : BitVec 32 := 0#32
  let c1_i32_62 : BitVec 32 := 1#32
  let arg12 : BitVec 32 := Scf.iv c0_i32_61 c1_i32_62 k3_t2
  let c32_i32 : BitVec 32 := 32#32
  let v110 : BitVec 32 := Scalar.muli arg12 c32_i32
  let v1091 : BitVec 32 := Scalar.addi v110 c0_i32_573
  let v1093 : Index := Scalar.indexCast v1091
  let c80 : Index := 80#32
  ![0, v1093.toNat, 80]
def k3_off15 (k3_t2 : Fin k3_t2_loop.trips) : Fin 3 → Nat :=
  let c0_i32_668 : BitVec 32 := 0#32
  let v1282 : Index := Scalar.indexCast c0_i32_668
  let c0_i32_61 : BitVec 32 := 0#32
  let c1_i32_62 : BitVec 32 := 1#32
  let arg12 : BitVec 32 := Scf.iv c0_i32_61 c1_i32_62 k3_t2
  let v1283 : Index := Scalar.indexCast arg12
  let c80_669 : Index := 80#32
  ![0, v1283.toNat, 80]
def k3_off16 (k3_t2 : Fin k3_t2_loop.trips) (c0_i32_670 : BitVec 32) : Fin 3 → Nat :=
  let c0_i32_671 : BitVec 32 := 0#32
  let v1288 : Index := Scalar.indexCast c0_i32_671
  let c0_i32_61 : BitVec 32 := 0#32
  let c1_i32_62 : BitVec 32 := 1#32
  let arg12 : BitVec 32 := Scf.iv c0_i32_61 c1_i32_62 k3_t2
  let c32_i32 : BitVec 32 := 32#32
  let v110 : BitVec 32 := Scalar.muli arg12 c32_i32
  let v1287 : BitVec 32 := Scalar.addi v110 c0_i32_670
  let v1289 : Index := Scalar.indexCast v1287
  let c96 : Index := 96#32
  ![0, v1289.toNat, 96]
def k3_off17 (k3_t2 : Fin k3_t2_loop.trips) : Fin 3 → Nat :=
  let c0_i32_765 : BitVec 32 := 0#32
  let v1478 : Index := Scalar.indexCast c0_i32_765
  let c0_i32_61 : BitVec 32 := 0#32
  let c1_i32_62 : BitVec 32 := 1#32
  let arg12 : BitVec 32 := Scf.iv c0_i32_61 c1_i32_62 k3_t2
  let v1479 : Index := Scalar.indexCast arg12
  let c96_766 : Index := 96#32
  ![0, v1479.toNat, 96]
def k3_off18 (k3_t2 : Fin k3_t2_loop.trips) (c0_i32_767 : BitVec 32) : Fin 3 → Nat :=
  let c0_i32_768 : BitVec 32 := 0#32
  let v1484 : Index := Scalar.indexCast c0_i32_768
  let c0_i32_61 : BitVec 32 := 0#32
  let c1_i32_62 : BitVec 32 := 1#32
  let arg12 : BitVec 32 := Scf.iv c0_i32_61 c1_i32_62 k3_t2
  let c32_i32 : BitVec 32 := 32#32
  let v110 : BitVec 32 := Scalar.muli arg12 c32_i32
  let v1483 : BitVec 32 := Scalar.addi v110 c0_i32_767
  let v1485 : Index := Scalar.indexCast v1483
  let c112 : Index := 112#32
  ![0, v1485.toNat, 112]
def k3_off19 (k3_t2 : Fin k3_t2_loop.trips) : Fin 3 → Nat :=
  let c0_i32_862 : BitVec 32 := 0#32
  let v1674 : Index := Scalar.indexCast c0_i32_862
  let c0_i32_61 : BitVec 32 := 0#32
  let c1_i32_62 : BitVec 32 := 1#32
  let arg12 : BitVec 32 := Scf.iv c0_i32_61 c1_i32_62 k3_t2
  let v1675 : Index := Scalar.indexCast arg12
  let c112_863 : Index := 112#32
  ![0, v1675.toNat, 112]
def k3_off20 (i : grid3.Coords) (k3_t1 : Fin k3_t1_loop.trips) (c0_i32_50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_14 : BitVec 32 := 0#32
  let c1_i32_15 : BitVec 32 := 1#32
  let arg11 : BitVec 32 := Scf.iv c0_i32_14 c1_i32_15 k3_t1
  let c2_i32_49 : BitVec 32 := 2#32
  let v50 : BitVec 32 := Scalar.muli arg11 c2_i32_49
  let v51 : BitVec 32 := Scalar.addi v50 c0_i32_50
  let c4_i32_64 : BitVec 32 := 4#32
  let v62 : BitVec 32 := Scalar.muli v51 c4_i32_64
  let v63 : BitVec 32 := Scalar.addi v2 v62
  let c0_i32_69 : BitVec 32 := 0#32
  ![v63.toNat, 0]
def k3_off21 (k3_t1 : Fin k3_t1_loop.trips) (c0_i32_50 : BitVec 32) : Fin 1 → Nat :=
  let c0_i32_14 : BitVec 32 := 0#32
  let c1_i32_15 : BitVec 32 := 1#32
  let arg11 : BitVec 32 := Scf.iv c0_i32_14 c1_i32_15 k3_t1
  let c2_i32_49 : BitVec 32 := 2#32
  let v50 : BitVec 32 := Scalar.muli arg11 c2_i32_49
  let v51 : BitVec 32 := Scalar.addi v50 c0_i32_50
  let c2_i32_73 : BitVec 32 := 2#32
  let v72 : BitVec 32 := Scalar.addi v51 c2_i32_73
  let c128_i32_74 : BitVec 32 := 128#32
  let v73 : BitVec 32 := Scalar.muli v72 c128_i32_74
  ![v73.toNat]
def k3_cond2 (k3_t1 : Fin k3_t1_loop.trips) : BitVec 1 :=
  let c0_i32_14 : BitVec 32 := 0#32
  let c1_i32_15 : BitVec 32 := 1#32
  let arg11 : BitVec 32 := Scf.iv c0_i32_14 c1_i32_15 k3_t1
  let c0_i32_90 : BitVec 32 := 0#32
  let v88 : BitVec 1 := Scalar.cmpi .sgt arg11 c0_i32_90
  let v89 : BitVec 32 := Scalar.extui v88
  let c0_i32_91 : BitVec 32 := 0#32
  let v90 : BitVec 1 := Scalar.cmpi .ne v89 c0_i32_91
  v90

def k3_off22 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_14 : BitVec 32 := 0#32
  let c1_i32_15 : BitVec 32 := 1#32
  let arg11 : BitVec 32 := Scf.iv c0_i32_14 c1_i32_15 k3_t1
  let c2_i32_81 : BitVec 32 := 2#32
  let v80 : BitVec 32 := Scalar.muli arg11 c2_i32_81
  let c1_i32_82 : BitVec 32 := 1#32
  let v81 : BitVec 32 := Scalar.addi v80 c1_i32_82
  let c4_i32_114 : BitVec 32 := 4#32
  let v110 : BitVec 32 := Scalar.muli v81 c4_i32_114
  let v111 : BitVec 32 := Scalar.addi v2 v110
  let c0_i32_119 : BitVec 32 := 0#32
  ![v111.toNat, 0]
@[reducible] def k3_t3_loop : Scf.Loop 32 :=
  let c0_i32_93 : BitVec 32 := 0#32
  let c4_i32_94 : BitVec 32 := 4#32
  let v91 : BitVec 32 := Scalar.addi c0_i32_93 c4_i32_94
  let c1_i32_95 : BitVec 32 := 1#32
  ⟨c0_i32_93, v91, c1_i32_95⟩
def k3_off23 (k3_t3 : Fin k3_t3_loop.trips) (c0_i32_114 : BitVec 32) : Fin 3 → Nat :=
  let c1_i32_115 : BitVec 32 := 1#32
  let v112 : Index := Scalar.indexCast c1_i32_115
  let c0_i32_93 : BitVec 32 := 0#32
  let c1_i32_95 : BitVec 32 := 1#32
  let arg12 : BitVec 32 := Scf.iv c0_i32_93 c1_i32_95 k3_t3
  let c32_i32 : BitVec 32 := 32#32
  let v110 : BitVec 32 := Scalar.muli arg12 c32_i32
  let v111 : BitVec 32 := Scalar.addi v110 c0_i32_114
  let v113 : Index := Scalar.indexCast v111
  let c0_116 : Index := 0#32
  ![1, v113.toNat, 0]
def k3_off24 (k3_t3 : Fin k3_t3_loop.trips) : Fin 3 → Nat :=
  let c1_i32_183 : BitVec 32 := 1#32
  let v302 : Index := Scalar.indexCast c1_i32_183
  let c0_i32_93 : BitVec 32 := 0#32
  let c1_i32_95 : BitVec 32 := 1#32
  let arg12 : BitVec 32 := Scf.iv c0_i32_93 c1_i32_95 k3_t3
  let v303 : Index := Scalar.indexCast arg12
  let c0_184 : Index := 0#32
  ![1, v303.toNat, 0]
def k3_off25 (k3_t3 : Fin k3_t3_loop.trips) (c0_i32_185 : BitVec 32) : Fin 3 → Nat :=
  let c1_i32_186 : BitVec 32 := 1#32
  let v308 : Index := Scalar.indexCast c1_i32_186
  let c0_i32_93 : BitVec 32 := 0#32
  let c1_i32_95 : BitVec 32 := 1#32
  let arg12 : BitVec 32 := Scf.iv c0_i32_93 c1_i32_95 k3_t3
  let c32_i32 : BitVec 32 := 32#32
  let v110 : BitVec 32 := Scalar.muli arg12 c32_i32
  let v307 : BitVec 32 := Scalar.addi v110 c0_i32_185
  let v309 : Index := Scalar.indexCast v307
  let c16 : Index := 16#32
  ![1, v309.toNat, 16]
def k3_off26 (k3_t3 : Fin k3_t3_loop.trips) : Fin 3 → Nat :=
  let c1_i32_280 : BitVec 32 := 1#32
  let v498 : Index := Scalar.indexCast c1_i32_280
  let c0_i32_93 : BitVec 32 := 0#32
  let c1_i32_95 : BitVec 32 := 1#32
  let arg12 : BitVec 32 := Scf.iv c0_i32_93 c1_i32_95 k3_t3
  let v499 : Index := Scalar.indexCast arg12
  let c16_281 : Index := 16#32
  ![1, v499.toNat, 16]
def k3_off27 (k3_t3 : Fin k3_t3_loop.trips) (c0_i32_282 : BitVec 32) : Fin 3 → Nat :=
  let c1_i32_283 : BitVec 32 := 1#32
  let v504 : Index := Scalar.indexCast c1_i32_283
  let c0_i32_93 : BitVec 32 := 0#32
  let c1_i32_95 : BitVec 32 := 1#32
  let arg12 : BitVec 32 := Scf.iv c0_i32_93 c1_i32_95 k3_t3
  let c32_i32 : BitVec 32 := 32#32
  let v110 : BitVec 32 := Scalar.muli arg12 c32_i32
  let v503 : BitVec 32 := Scalar.addi v110 c0_i32_282
  let v505 : Index := Scalar.indexCast v503
  let c32 : Index := 32#32
  ![1, v505.toNat, 32]
def k3_off28 (k3_t3 : Fin k3_t3_loop.trips) : Fin 3 → Nat :=
  let c1_i32_377 : BitVec 32 := 1#32
  let v694 : Index := Scalar.indexCast c1_i32_377
  let c0_i32_93 : BitVec 32 := 0#32
  let c1_i32_95 : BitVec 32 := 1#32
  let arg12 : BitVec 32 := Scf.iv c0_i32_93 c1_i32_95 k3_t3
  let v695 : Index := Scalar.indexCast arg12
  let c32_378 : Index := 32#32
  ![1, v695.toNat, 32]
def k3_off29 (k3_t3 : Fin k3_t3_loop.trips) (c0_i32_379 : BitVec 32) : Fin 3 → Nat :=
  let c1_i32_380 : BitVec 32 := 1#32
  let v700 : Index := Scalar.indexCast c1_i32_380
  let c0_i32_93 : BitVec 32 := 0#32
  let c1_i32_95 : BitVec 32 := 1#32
  let arg12 : BitVec 32 := Scf.iv c0_i32_93 c1_i32_95 k3_t3
  let c32_i32 : BitVec 32 := 32#32
  let v110 : BitVec 32 := Scalar.muli arg12 c32_i32
  let v699 : BitVec 32 := Scalar.addi v110 c0_i32_379
  let v701 : Index := Scalar.indexCast v699
  let c48 : Index := 48#32
  ![1, v701.toNat, 48]
def k3_off30 (k3_t3 : Fin k3_t3_loop.trips) : Fin 3 → Nat :=
  let c1_i32_474 : BitVec 32 := 1#32
  let v890 : Index := Scalar.indexCast c1_i32_474
  let c0_i32_93 : BitVec 32 := 0#32
  let c1_i32_95 : BitVec 32 := 1#32
  let arg12 : BitVec 32 := Scf.iv c0_i32_93 c1_i32_95 k3_t3
  let v891 : Index := Scalar.indexCast arg12
  let c48_475 : Index := 48#32
  ![1, v891.toNat, 48]
def k3_off31 (k3_t3 : Fin k3_t3_loop.trips) (c0_i32_476 : BitVec 32) : Fin 3 → Nat :=
  let c1_i32_477 : BitVec 32 := 1#32
  let v896 : Index := Scalar.indexCast c1_i32_477
  let c0_i32_93 : BitVec 32 := 0#32
  let c1_i32_95 : BitVec 32 := 1#32
  let arg12 : BitVec 32 := Scf.iv c0_i32_93 c1_i32_95 k3_t3
  let c32_i32 : BitVec 32 := 32#32
  let v110 : BitVec 32 := Scalar.muli arg12 c32_i32
  let v895 : BitVec 32 := Scalar.addi v110 c0_i32_476
  let v897 : Index := Scalar.indexCast v895
  let c64 : Index := 64#32
  ![1, v897.toNat, 64]
def k3_off32 (k3_t3 : Fin k3_t3_loop.trips) : Fin 3 → Nat :=
  let c1_i32_571 : BitVec 32 := 1#32
  let v1086 : Index := Scalar.indexCast c1_i32_571
  let c0_i32_93 : BitVec 32 := 0#32
  let c1_i32_95 : BitVec 32 := 1#32
  let arg12 : BitVec 32 := Scf.iv c0_i32_93 c1_i32_95 k3_t3
  let v1087 : Index := Scalar.indexCast arg12
  let c64_572 : Index := 64#32
  ![1, v1087.toNat, 64]
def k3_off33 (k3_t3 : Fin k3_t3_loop.trips) (c0_i32_573 : BitVec 32) : Fin 3 → Nat :=
  let c1_i32_574 : BitVec 32 := 1#32
  let v1092 : Index := Scalar.indexCast c1_i32_574
  let c0_i32_93 : BitVec 32 := 0#32
  let c1_i32_95 : BitVec 32 := 1#32
  let arg12 : BitVec 32 := Scf.iv c0_i32_93 c1_i32_95 k3_t3
  let c32_i32 : BitVec 32 := 32#32
  let v110 : BitVec 32 := Scalar.muli arg12 c32_i32
  let v1091 : BitVec 32 := Scalar.addi v110 c0_i32_573
  let v1093 : Index := Scalar.indexCast v1091
  let c80 : Index := 80#32
  ![1, v1093.toNat, 80]
def k3_off34 (k3_t3 : Fin k3_t3_loop.trips) : Fin 3 → Nat :=
  let c1_i32_668 : BitVec 32 := 1#32
  let v1282 : Index := Scalar.indexCast c1_i32_668
  let c0_i32_93 : BitVec 32 := 0#32
  let c1_i32_95 : BitVec 32 := 1#32
  let arg12 : BitVec 32 := Scf.iv c0_i32_93 c1_i32_95 k3_t3
  let v1283 : Index := Scalar.indexCast arg12
  let c80_669 : Index := 80#32
  ![1, v1283.toNat, 80]
def k3_off35 (k3_t3 : Fin k3_t3_loop.trips) (c0_i32_670 : BitVec 32) : Fin 3 → Nat :=
  let c1_i32_671 : BitVec 32 := 1#32
  let v1288 : Index := Scalar.indexCast c1_i32_671
  let c0_i32_93 : BitVec 32 := 0#32
  let c1_i32_95 : BitVec 32 := 1#32
  let arg12 : BitVec 32 := Scf.iv c0_i32_93 c1_i32_95 k3_t3
  let c32_i32 : BitVec 32 := 32#32
  let v110 : BitVec 32 := Scalar.muli arg12 c32_i32
  let v1287 : BitVec 32 := Scalar.addi v110 c0_i32_670
  let v1289 : Index := Scalar.indexCast v1287
  let c96 : Index := 96#32
  ![1, v1289.toNat, 96]
def k3_off36 (k3_t3 : Fin k3_t3_loop.trips) : Fin 3 → Nat :=
  let c1_i32_765 : BitVec 32 := 1#32
  let v1478 : Index := Scalar.indexCast c1_i32_765
  let c0_i32_93 : BitVec 32 := 0#32
  let c1_i32_95 : BitVec 32 := 1#32
  let arg12 : BitVec 32 := Scf.iv c0_i32_93 c1_i32_95 k3_t3
  let v1479 : Index := Scalar.indexCast arg12
  let c96_766 : Index := 96#32
  ![1, v1479.toNat, 96]
def k3_off37 (k3_t3 : Fin k3_t3_loop.trips) (c0_i32_767 : BitVec 32) : Fin 3 → Nat :=
  let c1_i32_768 : BitVec 32 := 1#32
  let v1484 : Index := Scalar.indexCast c1_i32_768
  let c0_i32_93 : BitVec 32 := 0#32
  let c1_i32_95 : BitVec 32 := 1#32
  let arg12 : BitVec 32 := Scf.iv c0_i32_93 c1_i32_95 k3_t3
  let c32_i32 : BitVec 32 := 32#32
  let v110 : BitVec 32 := Scalar.muli arg12 c32_i32
  let v1483 : BitVec 32 := Scalar.addi v110 c0_i32_767
  let v1485 : Index := Scalar.indexCast v1483
  let c112 : Index := 112#32
  ![1, v1485.toNat, 112]
def k3_off38 (k3_t3 : Fin k3_t3_loop.trips) : Fin 3 → Nat :=
  let c1_i32_862 : BitVec 32 := 1#32
  let v1674 : Index := Scalar.indexCast c1_i32_862
  let c0_i32_93 : BitVec 32 := 0#32
  let c1_i32_95 : BitVec 32 := 1#32
  let arg12 : BitVec 32 := Scf.iv c0_i32_93 c1_i32_95 k3_t3
  let v1675 : Index := Scalar.indexCast arg12
  let c112_863 : Index := 112#32
  ![1, v1675.toNat, 112]
def k3_off39 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_24 : BitVec 32 := 0#32
  let v26 : BitVec 32 := Scalar.addi v2 c0_i32_24
  let c0_i32_29 : BitVec 32 := 0#32
  ![v26.toNat, 0]
abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨2, ![2, 16], ![false, false]⟩

def k5_off1 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_49_r0 : BitVec 32 := 0#32
  ![v1.toNat, 0]
def k5_off2 (i : grid5.Coords) : (Fin 2 → Nat) × (Fin 2 → Nat) :=
  let arg1 : BitVec 32 := BitVec.ofNat 32 (i 1).val
  let c624_i32_1 : BitVec 32 := 624#32
  let v6 : BitVec 32 := Scalar.muli arg1 c624_i32_1
  let c0_i32_49_r1 : BitVec 32 := 0#32
  let c15_i32 : BitVec 32 := 15#32
  let v3 : BitVec 1 := Scalar.cmpi .eq arg1 c15_i32
  let c640_i32 : BitVec 32 := 640#32
  let c624_i32 : BitVec 32 := 624#32
  let v4 : BitVec 32 := Scalar.select v3 c640_i32 c624_i32
  ⟨![v6.toNat, 0], ![v4.toNat, 128]⟩
@[reducible] def k5_t1_loop : Scf.Loop 32 :=
  let c0_i32_14 : BitVec 32 := 0#32
  let c40_i32 : BitVec 32 := 40#32
  let v19 : BitVec 32 := Scalar.addi c0_i32_14 c40_i32
  let c1_i32_15 : BitVec 32 := 1#32
  ⟨c0_i32_14, v19, c1_i32_15⟩
def k5_cond1 (k5_t1 : Fin k5_t1_loop.trips) : BitVec 1 :=
  let c0_i32_14 : BitVec 32 := 0#32
  let c1_i32_15 : BitVec 32 := 1#32
  let arg11 : BitVec 32 := Scf.iv c0_i32_14 c1_i32_15 k5_t1
  let c0_i32_58 : BitVec 32 := 0#32
  let v58 : BitVec 1 := Scalar.cmpi .sgt arg11 c0_i32_58
  let v59 : BitVec 32 := Scalar.extui v58
  let c0_i32_59 : BitVec 32 := 0#32
  let v60 : BitVec 1 := Scalar.cmpi .ne v59 c0_i32_59
  v60

def k5_off3 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_14 : BitVec 32 := 0#32
  let c1_i32_15 : BitVec 32 := 1#32
  let arg11 : BitVec 32 := Scf.iv c0_i32_14 c1_i32_15 k5_t1
  let c2_i32_49 : BitVec 32 := 2#32
  let v50 : BitVec 32 := Scalar.muli arg11 c2_i32_49
  let c0_i32_50 : BitVec 32 := 0#32
  let v51 : BitVec 32 := Scalar.addi v50 c0_i32_50
  let c4_i32_114 : BitVec 32 := 4#32
  let v110 : BitVec 32 := Scalar.muli v51 c4_i32_114
  let v111 : BitVec 32 := Scalar.addi v2 v110
  let c0_i32_119 : BitVec 32 := 0#32
  ![v111.toNat, 0]
@[reducible] def k5_t2_loop : Scf.Loop 32 :=
  let c0_i32_61 : BitVec 32 := 0#32
  let c4_i32 : BitVec 32 := 4#32
  let v61 : BitVec 32 := Scalar.addi c0_i32_61 c4_i32
  let c1_i32_62 : BitVec 32 := 1#32
  ⟨c0_i32_61, v61, c1_i32_62⟩
def k5_off4 (k5_t2 : Fin k5_t2_loop.trips) (c0_i32_114 : BitVec 32) : Fin 3 → Nat :=
  let c0_i32_115 : BitVec 32 := 0#32
  let v112 : Index := Scalar.indexCast c0_i32_115
  let c0_i32_61 : BitVec 32 := 0#32
  let c1_i32_62 : BitVec 32 := 1#32
  let arg12 : BitVec 32 := Scf.iv c0_i32_61 c1_i32_62 k5_t2
  let c32_i32 : BitVec 32 := 32#32
  let v110 : BitVec 32 := Scalar.muli arg12 c32_i32
  let v111 : BitVec 32 := Scalar.addi v110 c0_i32_114
  let v113 : Index := Scalar.indexCast v111
  let c0_116 : Index := 0#32
  ![0, v113.toNat, 0]
def k5_off5 (k5_t2 : Fin k5_t2_loop.trips) : Fin 3 → Nat :=
  let c0_i32_183 : BitVec 32 := 0#32
  let v302 : Index := Scalar.indexCast c0_i32_183
  let c0_i32_61 : BitVec 32 := 0#32
  let c1_i32_62 : BitVec 32 := 1#32
  let arg12 : BitVec 32 := Scf.iv c0_i32_61 c1_i32_62 k5_t2
  let v303 : Index := Scalar.indexCast arg12
  let c0_184 : Index := 0#32
  ![0, v303.toNat, 0]
def k5_off6 (k5_t2 : Fin k5_t2_loop.trips) (c0_i32_185 : BitVec 32) : Fin 3 → Nat :=
  let c0_i32_186 : BitVec 32 := 0#32
  let v308 : Index := Scalar.indexCast c0_i32_186
  let c0_i32_61 : BitVec 32 := 0#32
  let c1_i32_62 : BitVec 32 := 1#32
  let arg12 : BitVec 32 := Scf.iv c0_i32_61 c1_i32_62 k5_t2
  let c32_i32 : BitVec 32 := 32#32
  let v110 : BitVec 32 := Scalar.muli arg12 c32_i32
  let v307 : BitVec 32 := Scalar.addi v110 c0_i32_185
  let v309 : Index := Scalar.indexCast v307
  let c16 : Index := 16#32
  ![0, v309.toNat, 16]
def k5_off7 (k5_t2 : Fin k5_t2_loop.trips) : Fin 3 → Nat :=
  let c0_i32_280 : BitVec 32 := 0#32
  let v498 : Index := Scalar.indexCast c0_i32_280
  let c0_i32_61 : BitVec 32 := 0#32
  let c1_i32_62 : BitVec 32 := 1#32
  let arg12 : BitVec 32 := Scf.iv c0_i32_61 c1_i32_62 k5_t2
  let v499 : Index := Scalar.indexCast arg12
  let c16_281 : Index := 16#32
  ![0, v499.toNat, 16]
def k5_off8 (k5_t2 : Fin k5_t2_loop.trips) (c0_i32_282 : BitVec 32) : Fin 3 → Nat :=
  let c0_i32_283 : BitVec 32 := 0#32
  let v504 : Index := Scalar.indexCast c0_i32_283
  let c0_i32_61 : BitVec 32 := 0#32
  let c1_i32_62 : BitVec 32 := 1#32
  let arg12 : BitVec 32 := Scf.iv c0_i32_61 c1_i32_62 k5_t2
  let c32_i32 : BitVec 32 := 32#32
  let v110 : BitVec 32 := Scalar.muli arg12 c32_i32
  let v503 : BitVec 32 := Scalar.addi v110 c0_i32_282
  let v505 : Index := Scalar.indexCast v503
  let c32 : Index := 32#32
  ![0, v505.toNat, 32]
def k5_off9 (k5_t2 : Fin k5_t2_loop.trips) : Fin 3 → Nat :=
  let c0_i32_377 : BitVec 32 := 0#32
  let v694 : Index := Scalar.indexCast c0_i32_377
  let c0_i32_61 : BitVec 32 := 0#32
  let c1_i32_62 : BitVec 32 := 1#32
  let arg12 : BitVec 32 := Scf.iv c0_i32_61 c1_i32_62 k5_t2
  let v695 : Index := Scalar.indexCast arg12
  let c32_378 : Index := 32#32
  ![0, v695.toNat, 32]
def k5_off10 (k5_t2 : Fin k5_t2_loop.trips) (c0_i32_379 : BitVec 32) : Fin 3 → Nat :=
  let c0_i32_380 : BitVec 32 := 0#32
  let v700 : Index := Scalar.indexCast c0_i32_380
  let c0_i32_61 : BitVec 32 := 0#32
  let c1_i32_62 : BitVec 32 := 1#32
  let arg12 : BitVec 32 := Scf.iv c0_i32_61 c1_i32_62 k5_t2
  let c32_i32 : BitVec 32 := 32#32
  let v110 : BitVec 32 := Scalar.muli arg12 c32_i32
  let v699 : BitVec 32 := Scalar.addi v110 c0_i32_379
  let v701 : Index := Scalar.indexCast v699
  let c48 : Index := 48#32
  ![0, v701.toNat, 48]
def k5_off11 (k5_t2 : Fin k5_t2_loop.trips) : Fin 3 → Nat :=
  let c0_i32_474 : BitVec 32 := 0#32
  let v890 : Index := Scalar.indexCast c0_i32_474
  let c0_i32_61 : BitVec 32 := 0#32
  let c1_i32_62 : BitVec 32 := 1#32
  let arg12 : BitVec 32 := Scf.iv c0_i32_61 c1_i32_62 k5_t2
  let v891 : Index := Scalar.indexCast arg12
  let c48_475 : Index := 48#32
  ![0, v891.toNat, 48]
def k5_off12 (k5_t2 : Fin k5_t2_loop.trips) (c0_i32_476 : BitVec 32) : Fin 3 → Nat :=
  let c0_i32_477 : BitVec 32 := 0#32
  let v896 : Index := Scalar.indexCast c0_i32_477
  let c0_i32_61 : BitVec 32 := 0#32
  let c1_i32_62 : BitVec 32 := 1#32
  let arg12 : BitVec 32 := Scf.iv c0_i32_61 c1_i32_62 k5_t2
  let c32_i32 : BitVec 32 := 32#32
  let v110 : BitVec 32 := Scalar.muli arg12 c32_i32
  let v895 : BitVec 32 := Scalar.addi v110 c0_i32_476
  let v897 : Index := Scalar.indexCast v895
  let c64 : Index := 64#32
  ![0, v897.toNat, 64]
def k5_off13 (k5_t2 : Fin k5_t2_loop.trips) : Fin 3 → Nat :=
  let c0_i32_571 : BitVec 32 := 0#32
  let v1086 : Index := Scalar.indexCast c0_i32_571
  let c0_i32_61 : BitVec 32 := 0#32
  let c1_i32_62 : BitVec 32 := 1#32
  let arg12 : BitVec 32 := Scf.iv c0_i32_61 c1_i32_62 k5_t2
  let v1087 : Index := Scalar.indexCast arg12
  let c64_572 : Index := 64#32
  ![0, v1087.toNat, 64]
def k5_off14 (k5_t2 : Fin k5_t2_loop.trips) (c0_i32_573 : BitVec 32) : Fin 3 → Nat :=
  let c0_i32_574 : BitVec 32 := 0#32
  let v1092 : Index := Scalar.indexCast c0_i32_574
  let c0_i32_61 : BitVec 32 := 0#32
  let c1_i32_62 : BitVec 32 := 1#32
  let arg12 : BitVec 32 := Scf.iv c0_i32_61 c1_i32_62 k5_t2
  let c32_i32 : BitVec 32 := 32#32
  let v110 : BitVec 32 := Scalar.muli arg12 c32_i32
  let v1091 : BitVec 32 := Scalar.addi v110 c0_i32_573
  let v1093 : Index := Scalar.indexCast v1091
  let c80 : Index := 80#32
  ![0, v1093.toNat, 80]
def k5_off15 (k5_t2 : Fin k5_t2_loop.trips) : Fin 3 → Nat :=
  let c0_i32_668 : BitVec 32 := 0#32
  let v1282 : Index := Scalar.indexCast c0_i32_668
  let c0_i32_61 : BitVec 32 := 0#32
  let c1_i32_62 : BitVec 32 := 1#32
  let arg12 : BitVec 32 := Scf.iv c0_i32_61 c1_i32_62 k5_t2
  let v1283 : Index := Scalar.indexCast arg12
  let c80_669 : Index := 80#32
  ![0, v1283.toNat, 80]
def k5_off16 (k5_t2 : Fin k5_t2_loop.trips) (c0_i32_670 : BitVec 32) : Fin 3 → Nat :=
  let c0_i32_671 : BitVec 32 := 0#32
  let v1288 : Index := Scalar.indexCast c0_i32_671
  let c0_i32_61 : BitVec 32 := 0#32
  let c1_i32_62 : BitVec 32 := 1#32
  let arg12 : BitVec 32 := Scf.iv c0_i32_61 c1_i32_62 k5_t2
  let c32_i32 : BitVec 32 := 32#32
  let v110 : BitVec 32 := Scalar.muli arg12 c32_i32
  let v1287 : BitVec 32 := Scalar.addi v110 c0_i32_670
  let v1289 : Index := Scalar.indexCast v1287
  let c96 : Index := 96#32
  ![0, v1289.toNat, 96]
def k5_off17 (k5_t2 : Fin k5_t2_loop.trips) : Fin 3 → Nat :=
  let c0_i32_765 : BitVec 32 := 0#32
  let v1478 : Index := Scalar.indexCast c0_i32_765
  let c0_i32_61 : BitVec 32 := 0#32
  let c1_i32_62 : BitVec 32 := 1#32
  let arg12 : BitVec 32 := Scf.iv c0_i32_61 c1_i32_62 k5_t2
  let v1479 : Index := Scalar.indexCast arg12
  let c96_766 : Index := 96#32
  ![0, v1479.toNat, 96]
def k5_off18 (k5_t2 : Fin k5_t2_loop.trips) (c0_i32_767 : BitVec 32) : Fin 3 → Nat :=
  let c0_i32_768 : BitVec 32 := 0#32
  let v1484 : Index := Scalar.indexCast c0_i32_768
  let c0_i32_61 : BitVec 32 := 0#32
  let c1_i32_62 : BitVec 32 := 1#32
  let arg12 : BitVec 32 := Scf.iv c0_i32_61 c1_i32_62 k5_t2
  let c32_i32 : BitVec 32 := 32#32
  let v110 : BitVec 32 := Scalar.muli arg12 c32_i32
  let v1483 : BitVec 32 := Scalar.addi v110 c0_i32_767
  let v1485 : Index := Scalar.indexCast v1483
  let c112 : Index := 112#32
  ![0, v1485.toNat, 112]
def k5_off19 (k5_t2 : Fin k5_t2_loop.trips) : Fin 3 → Nat :=
  let c0_i32_862 : BitVec 32 := 0#32
  let v1674 : Index := Scalar.indexCast c0_i32_862
  let c0_i32_61 : BitVec 32 := 0#32
  let c1_i32_62 : BitVec 32 := 1#32
  let arg12 : BitVec 32 := Scf.iv c0_i32_61 c1_i32_62 k5_t2
  let v1675 : Index := Scalar.indexCast arg12
  let c112_863 : Index := 112#32
  ![0, v1675.toNat, 112]
def k5_off20 (i : grid5.Coords) (k5_t1 : Fin k5_t1_loop.trips) (c0_i32_50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_14 : BitVec 32 := 0#32
  let c1_i32_15 : BitVec 32 := 1#32
  let arg11 : BitVec 32 := Scf.iv c0_i32_14 c1_i32_15 k5_t1
  let c2_i32_49 : BitVec 32 := 2#32
  let v50 : BitVec 32 := Scalar.muli arg11 c2_i32_49
  let v51 : BitVec 32 := Scalar.addi v50 c0_i32_50
  let c4_i32_64 : BitVec 32 := 4#32
  let v62 : BitVec 32 := Scalar.muli v51 c4_i32_64
  let v63 : BitVec 32 := Scalar.addi v2 v62
  let c0_i32_69 : BitVec 32 := 0#32
  ![v63.toNat, 0]
def k5_off21 (k5_t1 : Fin k5_t1_loop.trips) (c0_i32_50 : BitVec 32) : Fin 1 → Nat :=
  let c0_i32_14 : BitVec 32 := 0#32
  let c1_i32_15 : BitVec 32 := 1#32
  let arg11 : BitVec 32 := Scf.iv c0_i32_14 c1_i32_15 k5_t1
  let c2_i32_49 : BitVec 32 := 2#32
  let v50 : BitVec 32 := Scalar.muli arg11 c2_i32_49
  let v51 : BitVec 32 := Scalar.addi v50 c0_i32_50
  let c2_i32_73 : BitVec 32 := 2#32
  let v72 : BitVec 32 := Scalar.addi v51 c2_i32_73
  let c128_i32_74 : BitVec 32 := 128#32
  let v73 : BitVec 32 := Scalar.muli v72 c128_i32_74
  ![v73.toNat]
def k5_cond2 (k5_t1 : Fin k5_t1_loop.trips) : BitVec 1 :=
  let c0_i32_14 : BitVec 32 := 0#32
  let c1_i32_15 : BitVec 32 := 1#32
  let arg11 : BitVec 32 := Scf.iv c0_i32_14 c1_i32_15 k5_t1
  let c0_i32_90 : BitVec 32 := 0#32
  let v88 : BitVec 1 := Scalar.cmpi .sgt arg11 c0_i32_90
  let v89 : BitVec 32 := Scalar.extui v88
  let c0_i32_91 : BitVec 32 := 0#32
  let v90 : BitVec 1 := Scalar.cmpi .ne v89 c0_i32_91
  v90

def k5_off22 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_14 : BitVec 32 := 0#32
  let c1_i32_15 : BitVec 32 := 1#32
  let arg11 : BitVec 32 := Scf.iv c0_i32_14 c1_i32_15 k5_t1
  let c2_i32_81 : BitVec 32 := 2#32
  let v80 : BitVec 32 := Scalar.muli arg11 c2_i32_81
  let c1_i32_82 : BitVec 32 := 1#32
  let v81 : BitVec 32 := Scalar.addi v80 c1_i32_82
  let c4_i32_114 : BitVec 32 := 4#32
  let v110 : BitVec 32 := Scalar.muli v81 c4_i32_114
  let v111 : BitVec 32 := Scalar.addi v2 v110
  let c0_i32_119 : BitVec 32 := 0#32
  ![v111.toNat, 0]
@[reducible] def k5_t3_loop : Scf.Loop 32 :=
  let c0_i32_93 : BitVec 32 := 0#32
  let c4_i32_94 : BitVec 32 := 4#32
  let v91 : BitVec 32 := Scalar.addi c0_i32_93 c4_i32_94
  let c1_i32_95 : BitVec 32 := 1#32
  ⟨c0_i32_93, v91, c1_i32_95⟩
def k5_off23 (k5_t3 : Fin k5_t3_loop.trips) (c0_i32_114 : BitVec 32) : Fin 3 → Nat :=
  let c1_i32_115 : BitVec 32 := 1#32
  let v112 : Index := Scalar.indexCast c1_i32_115
  let c0_i32_93 : BitVec 32 := 0#32
  let c1_i32_95 : BitVec 32 := 1#32
  let arg12 : BitVec 32 := Scf.iv c0_i32_93 c1_i32_95 k5_t3
  let c32_i32 : BitVec 32 := 32#32
  let v110 : BitVec 32 := Scalar.muli arg12 c32_i32
  let v111 : BitVec 32 := Scalar.addi v110 c0_i32_114
  let v113 : Index := Scalar.indexCast v111
  let c0_116 : Index := 0#32
  ![1, v113.toNat, 0]
def k5_off24 (k5_t3 : Fin k5_t3_loop.trips) : Fin 3 → Nat :=
  let c1_i32_183 : BitVec 32 := 1#32
  let v302 : Index := Scalar.indexCast c1_i32_183
  let c0_i32_93 : BitVec 32 := 0#32
  let c1_i32_95 : BitVec 32 := 1#32
  let arg12 : BitVec 32 := Scf.iv c0_i32_93 c1_i32_95 k5_t3
  let v303 : Index := Scalar.indexCast arg12
  let c0_184 : Index := 0#32
  ![1, v303.toNat, 0]
def k5_off25 (k5_t3 : Fin k5_t3_loop.trips) (c0_i32_185 : BitVec 32) : Fin 3 → Nat :=
  let c1_i32_186 : BitVec 32 := 1#32
  let v308 : Index := Scalar.indexCast c1_i32_186
  let c0_i32_93 : BitVec 32 := 0#32
  let c1_i32_95 : BitVec 32 := 1#32
  let arg12 : BitVec 32 := Scf.iv c0_i32_93 c1_i32_95 k5_t3
  let c32_i32 : BitVec 32 := 32#32
  let v110 : BitVec 32 := Scalar.muli arg12 c32_i32
  let v307 : BitVec 32 := Scalar.addi v110 c0_i32_185
  let v309 : Index := Scalar.indexCast v307
  let c16 : Index := 16#32
  ![1, v309.toNat, 16]
def k5_off26 (k5_t3 : Fin k5_t3_loop.trips) : Fin 3 → Nat :=
  let c1_i32_280 : BitVec 32 := 1#32
  let v498 : Index := Scalar.indexCast c1_i32_280
  let c0_i32_93 : BitVec 32 := 0#32
  let c1_i32_95 : BitVec 32 := 1#32
  let arg12 : BitVec 32 := Scf.iv c0_i32_93 c1_i32_95 k5_t3
  let v499 : Index := Scalar.indexCast arg12
  let c16_281 : Index := 16#32
  ![1, v499.toNat, 16]
def k5_off27 (k5_t3 : Fin k5_t3_loop.trips) (c0_i32_282 : BitVec 32) : Fin 3 → Nat :=
  let c1_i32_283 : BitVec 32 := 1#32
  let v504 : Index := Scalar.indexCast c1_i32_283
  let c0_i32_93 : BitVec 32 := 0#32
  let c1_i32_95 : BitVec 32 := 1#32
  let arg12 : BitVec 32 := Scf.iv c0_i32_93 c1_i32_95 k5_t3
  let c32_i32 : BitVec 32 := 32#32
  let v110 : BitVec 32 := Scalar.muli arg12 c32_i32
  let v503 : BitVec 32 := Scalar.addi v110 c0_i32_282
  let v505 : Index := Scalar.indexCast v503
  let c32 : Index := 32#32
  ![1, v505.toNat, 32]
def k5_off28 (k5_t3 : Fin k5_t3_loop.trips) : Fin 3 → Nat :=
  let c1_i32_377 : BitVec 32 := 1#32
  let v694 : Index := Scalar.indexCast c1_i32_377
  let c0_i32_93 : BitVec 32 := 0#32
  let c1_i32_95 : BitVec 32 := 1#32
  let arg12 : BitVec 32 := Scf.iv c0_i32_93 c1_i32_95 k5_t3
  let v695 : Index := Scalar.indexCast arg12
  let c32_378 : Index := 32#32
  ![1, v695.toNat, 32]
def k5_off29 (k5_t3 : Fin k5_t3_loop.trips) (c0_i32_379 : BitVec 32) : Fin 3 → Nat :=
  let c1_i32_380 : BitVec 32 := 1#32
  let v700 : Index := Scalar.indexCast c1_i32_380
  let c0_i32_93 : BitVec 32 := 0#32
  let c1_i32_95 : BitVec 32 := 1#32
  let arg12 : BitVec 32 := Scf.iv c0_i32_93 c1_i32_95 k5_t3
  let c32_i32 : BitVec 32 := 32#32
  let v110 : BitVec 32 := Scalar.muli arg12 c32_i32
  let v699 : BitVec 32 := Scalar.addi v110 c0_i32_379
  let v701 : Index := Scalar.indexCast v699
  let c48 : Index := 48#32
  ![1, v701.toNat, 48]
def k5_off30 (k5_t3 : Fin k5_t3_loop.trips) : Fin 3 → Nat :=
  let c1_i32_474 : BitVec 32 := 1#32
  let v890 : Index := Scalar.indexCast c1_i32_474
  let c0_i32_93 : BitVec 32 := 0#32
  let c1_i32_95 : BitVec 32 := 1#32
  let arg12 : BitVec 32 := Scf.iv c0_i32_93 c1_i32_95 k5_t3
  let v891 : Index := Scalar.indexCast arg12
  let c48_475 : Index := 48#32
  ![1, v891.toNat, 48]
def k5_off31 (k5_t3 : Fin k5_t3_loop.trips) (c0_i32_476 : BitVec 32) : Fin 3 → Nat :=
  let c1_i32_477 : BitVec 32 := 1#32
  let v896 : Index := Scalar.indexCast c1_i32_477
  let c0_i32_93 : BitVec 32 := 0#32
  let c1_i32_95 : BitVec 32 := 1#32
  let arg12 : BitVec 32 := Scf.iv c0_i32_93 c1_i32_95 k5_t3
  let c32_i32 : BitVec 32 := 32#32
  let v110 : BitVec 32 := Scalar.muli arg12 c32_i32
  let v895 : BitVec 32 := Scalar.addi v110 c0_i32_476
  let v897 : Index := Scalar.indexCast v895
  let c64 : Index := 64#32
  ![1, v897.toNat, 64]
def k5_off32 (k5_t3 : Fin k5_t3_loop.trips) : Fin 3 → Nat :=
  let c1_i32_571 : BitVec 32 := 1#32
  let v1086 : Index := Scalar.indexCast c1_i32_571
  let c0_i32_93 : BitVec 32 := 0#32
  let c1_i32_95 : BitVec 32 := 1#32
  let arg12 : BitVec 32 := Scf.iv c0_i32_93 c1_i32_95 k5_t3
  let v1087 : Index := Scalar.indexCast arg12
  let c64_572 : Index := 64#32
  ![1, v1087.toNat, 64]
def k5_off33 (k5_t3 : Fin k5_t3_loop.trips) (c0_i32_573 : BitVec 32) : Fin 3 → Nat :=
  let c1_i32_574 : BitVec 32 := 1#32
  let v1092 : Index := Scalar.indexCast c1_i32_574
  let c0_i32_93 : BitVec 32 := 0#32
  let c1_i32_95 : BitVec 32 := 1#32
  let arg12 : BitVec 32 := Scf.iv c0_i32_93 c1_i32_95 k5_t3
  let c32_i32 : BitVec 32 := 32#32
  let v110 : BitVec 32 := Scalar.muli arg12 c32_i32
  let v1091 : BitVec 32 := Scalar.addi v110 c0_i32_573
  let v1093 : Index := Scalar.indexCast v1091
  let c80 : Index := 80#32
  ![1, v1093.toNat, 80]
def k5_off34 (k5_t3 : Fin k5_t3_loop.trips) : Fin 3 → Nat :=
  let c1_i32_668 : BitVec 32 := 1#32
  let v1282 : Index := Scalar.indexCast c1_i32_668
  let c0_i32_93 : BitVec 32 := 0#32
  let c1_i32_95 : BitVec 32 := 1#32
  let arg12 : BitVec 32 := Scf.iv c0_i32_93 c1_i32_95 k5_t3
  let v1283 : Index := Scalar.indexCast arg12
  let c80_669 : Index := 80#32
  ![1, v1283.toNat, 80]
def k5_off35 (k5_t3 : Fin k5_t3_loop.trips) (c0_i32_670 : BitVec 32) : Fin 3 → Nat :=
  let c1_i32_671 : BitVec 32 := 1#32
  let v1288 : Index := Scalar.indexCast c1_i32_671
  let c0_i32_93 : BitVec 32 := 0#32
  let c1_i32_95 : BitVec 32 := 1#32
  let arg12 : BitVec 32 := Scf.iv c0_i32_93 c1_i32_95 k5_t3
  let c32_i32 : BitVec 32 := 32#32
  let v110 : BitVec 32 := Scalar.muli arg12 c32_i32
  let v1287 : BitVec 32 := Scalar.addi v110 c0_i32_670
  let v1289 : Index := Scalar.indexCast v1287
  let c96 : Index := 96#32
  ![1, v1289.toNat, 96]
def k5_off36 (k5_t3 : Fin k5_t3_loop.trips) : Fin 3 → Nat :=
  let c1_i32_765 : BitVec 32 := 1#32
  let v1478 : Index := Scalar.indexCast c1_i32_765
  let c0_i32_93 : BitVec 32 := 0#32
  let c1_i32_95 : BitVec 32 := 1#32
  let arg12 : BitVec 32 := Scf.iv c0_i32_93 c1_i32_95 k5_t3
  let v1479 : Index := Scalar.indexCast arg12
  let c96_766 : Index := 96#32
  ![1, v1479.toNat, 96]
def k5_off37 (k5_t3 : Fin k5_t3_loop.trips) (c0_i32_767 : BitVec 32) : Fin 3 → Nat :=
  let c1_i32_768 : BitVec 32 := 1#32
  let v1484 : Index := Scalar.indexCast c1_i32_768
  let c0_i32_93 : BitVec 32 := 0#32
  let c1_i32_95 : BitVec 32 := 1#32
  let arg12 : BitVec 32 := Scf.iv c0_i32_93 c1_i32_95 k5_t3
  let c32_i32 : BitVec 32 := 32#32
  let v110 : BitVec 32 := Scalar.muli arg12 c32_i32
  let v1483 : BitVec 32 := Scalar.addi v110 c0_i32_767
  let v1485 : Index := Scalar.indexCast v1483
  let c112 : Index := 112#32
  ![1, v1485.toNat, 112]
def k5_off38 (k5_t3 : Fin k5_t3_loop.trips) : Fin 3 → Nat :=
  let c1_i32_862 : BitVec 32 := 1#32
  let v1674 : Index := Scalar.indexCast c1_i32_862
  let c0_i32_93 : BitVec 32 := 0#32
  let c1_i32_95 : BitVec 32 := 1#32
  let arg12 : BitVec 32 := Scf.iv c0_i32_93 c1_i32_95 k5_t3
  let v1675 : Index := Scalar.indexCast arg12
  let c112_863 : Index := 112#32
  ![1, v1675.toNat, 112]
def k5_off39 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_24 : BitVec 32 := 0#32
  let v26 : BitVec 32 := Scalar.addi v2 c0_i32_24
  let c0_i32_29 : BitVec 32 := 0#32
  ![v26.toNat, 0]
abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))

class Facts₀ : Prop where
  slices_S2x320000_S1x320000_1_0 : S2x320000.Slices ![1, 0] S1x320000
  shapeCasts_S1x320000_S320000 : S1x320000.ShapeCasts S320000
  bcast_S_S7680 : S_.BroadcastsInDim S7680 (![] : Fin 0 → Fin S7680.rank)
  concatenates_S320000_S7680_S327680_d0 : Shape.Concatenates [S320000, S7680] S327680 0
  shapeCasts_S327680_S32x10240 : S327680.ShapeCasts S32x10240
  bcast_S_S32x10496 : S_.BroadcastsInDim S32x10496 (![] : Fin 0 → Fin S32x10496.rank)
  bcast_S_S1 : S_.BroadcastsInDim S1 (![] : Fin 0 → Fin S1.rank)
  squeezes_S1x10496_S10496 : S1x10496.Squeezes S10496
  inb_S2x128x128_S1x128x128_0_0_0 : ∀ a, (![0, 0, 0] : Fin 3 → Nat) a + S1x128x128.size a ≤ S2x128x128.size a
  squeezes_S1x128x128_S128x128 : S1x128x128.Squeezes S128x128
  inb_S10496_S128_0 : ∀ a, (![0] : Fin 1 → Nat) a + S128.size a ≤ S10496.size a
  inb_S10000x128_S10000x128_0_0 : ∀ a, (![0, 0] : Fin 2 → Nat) a + S10000x128.size a ≤ S10000x128.size a
  inb_S2_S1_0 : ∀ a, (![0] : Fin 1 → Nat) a + S1.size a ≤ S2.size a
  squeezes_S1_S_ : S1.Squeezes S_
  gathers_S10000x128_S128x128 : S10000x128.Gathers 0 S128x128
  inb_S2x128x128_S1x128x128_1_0_0 : ∀ a, (![1, 0, 0] : Fin 3 → Nat) a + S1x128x128.size a ≤ S2x128x128.size a
  inb_S10496_S128_128 : ∀ a, (![128] : Fin 1 → Nat) a + S128.size a ≤ S10496.size a
  inb_S2_S1_1 : ∀ a, (![1] : Fin 1 → Nat) a + S1.size a ≤ S2.size a
  inb_S2x4x128_S1x4x128_0_0_0 : ∀ a, (![0, 0, 0] : Fin 3 → Nat) a + S1x4x128.size a ≤ S2x4x128.size a
  squeezes_S1x4x128_S4x128 : S1x4x128.Squeezes S4x128
  h_S1x1x16 : 0 < S1x1x16.numel
  shapeCasts_S1x1x16_S16 : S1x1x16.ShapeCasts S16
  shapeCasts_S16_S1x1x16 : S16.ShapeCasts S1x1x16
  inb_S2x4x128_S1x4x128_1_0_0 : ∀ a, (![1, 0, 0] : Fin 3 → Nat) a + S1x4x128.size a ≤ S2x4x128.size a
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S32x10496_S1_S32x10240_01_n_1_0_wf : ScatterDims.WF S32x10496 S1 S32x10240 [0, 1] [] [1] 0
  dot_S2000x128_S128x128_S2000x128_1_1_0_0_n_n_wf : DotDims.WF S2000x128 S128x128 S2000x128 [1] [1] [0] [0] [] []
  hcc0_scratch4 : 0 + S2.numel ≤ 56
  hcc0_scratch5 : 2 + S2.numel ≤ 56
  hcc0_scoped0 : 4 + S_.numel ≤ 56
  hcc0_scoped1 : 5 + S_.numel ≤ 56
  hcc3_scratch4 : 24 + S2.numel ≤ 56
  hcc3_scratch5 : 26 + S2.numel ≤ 56
  hcc3_scoped0 : 28 + S_.numel ≤ 56
  hcc3_scoped1 : 29 + S_.numel ≤ 56
  hcc5_scratch4 : 42 + S2.numel ≤ 56
  hcc5_scratch5 : 44 + S2.numel ≤ 56
  hcc5_scoped0 : 46 + S_.numel ≤ 56
  hcc5_scoped1 : 47 + S_.numel ≤ 56
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x10496.size a ≤ S32x10496.size a
  k0_off2_inb : ∀ i : grid0.Coords, ∀ a, (k0_off2 i).1 a + (k0_off2 i).2 a ≤ S10000x128.size a
  k0_t1_ok : k0_t1_loop.OK
  k0_off3_inb : ∀ (i : grid0.Coords) (k0_t1 : Fin k0_t1_loop.trips), ∀ (k0_h1 : k0_cond1 k0_t1 = 1#1), ∀ a, (k0_off3 i k0_t1) a + S4x128.size a ≤ S10240x128.size a
  k0_t2_ok : k0_t2_loop.OK
  k0_off4_inb : ∀ k0_t2 : Fin k0_t2_loop.trips, ∀ (r : Fin 32), ∀ a, (k0_off4 k0_t2 (BitVec.ofNat 32 r.val)) a + S1x1x16.size a ≤ S2x128x128.size a
  k0_off5_inb : ∀ k0_t2 : Fin k0_t2_loop.trips, ∀ a, (k0_off5 k0_t2) a + S1x1x16.size a ≤ S2x4x128.size a
  k0_off6_inb : ∀ k0_t2 : Fin k0_t2_loop.trips, ∀ (r : Fin 32), ∀ a, (k0_off6 k0_t2 (BitVec.ofNat 32 r.val)) a + S1x1x16.size a ≤ S2x128x128.size a
  k0_off7_inb : ∀ k0_t2 : Fin k0_t2_loop.trips, ∀ a, (k0_off7 k0_t2) a + S1x1x16.size a ≤ S2x4x128.size a
  k0_off8_inb : ∀ k0_t2 : Fin k0_t2_loop.trips, ∀ (r : Fin 32), ∀ a, (k0_off8 k0_t2 (BitVec.ofNat 32 r.val)) a + S1x1x16.size a ≤ S2x128x128.size a
  k0_off9_inb : ∀ k0_t2 : Fin k0_t2_loop.trips, ∀ a, (k0_off9 k0_t2) a + S1x1x16.size a ≤ S2x4x128.size a
  k0_off10_inb : ∀ k0_t2 : Fin k0_t2_loop.trips, ∀ (r : Fin 32), ∀ a, (k0_off10 k0_t2 (BitVec.ofNat 32 r.val)) a + S1x1x16.size a ≤ S2x128x128.size a
  k0_off11_inb : ∀ k0_t2 : Fin k0_t2_loop.trips, ∀ a, (k0_off11 k0_t2) a + S1x1x16.size a ≤ S2x4x128.size a
  k0_off12_inb : ∀ k0_t2 : Fin k0_t2_loop.trips, ∀ (r : Fin 32), ∀ a, (k0_off12 k0_t2 (BitVec.ofNat 32 r.val)) a + S1x1x16.size a ≤ S2x128x128.size a
  k0_off13_inb : ∀ k0_t2 : Fin k0_t2_loop.trips, ∀ a, (k0_off13 k0_t2) a + S1x1x16.size a ≤ S2x4x128.size a
  k0_off14_inb : ∀ k0_t2 : Fin k0_t2_loop.trips, ∀ (r : Fin 32), ∀ a, (k0_off14 k0_t2 (BitVec.ofNat 32 r.val)) a + S1x1x16.size a ≤ S2x128x128.size a
  k0_off15_inb : ∀ k0_t2 : Fin k0_t2_loop.trips, ∀ a, (k0_off15 k0_t2) a + S1x1x16.size a ≤ S2x4x128.size a
  k0_off16_inb : ∀ k0_t2 : Fin k0_t2_loop.trips, ∀ (r : Fin 32), ∀ a, (k0_off16 k0_t2 (BitVec.ofNat 32 r.val)) a + S1x1x16.size a ≤ S2x128x128.size a
  k0_off17_inb : ∀ k0_t2 : Fin k0_t2_loop.trips, ∀ a, (k0_off17 k0_t2) a + S1x1x16.size a ≤ S2x4x128.size a
  k0_off18_inb : ∀ k0_t2 : Fin k0_t2_loop.trips, ∀ (r : Fin 32), ∀ a, (k0_off18 k0_t2 (BitVec.ofNat 32 r.val)) a + S1x1x16.size a ≤ S2x128x128.size a
  k0_off19_inb : ∀ k0_t2 : Fin k0_t2_loop.trips, ∀ a, (k0_off19 k0_t2) a + S1x1x16.size a ≤ S2x4x128.size a
  k0_off20_inb : ∀ (i : grid0.Coords) (k0_t1 : Fin k0_t1_loop.trips), ∀ (r : Fin 2), ∀ a, (k0_off20 i k0_t1 (BitVec.ofNat 32 r.val)) a + S4x128.size a ≤ S10240x128.size a
  k0_off21_inb : ∀ k0_t1 : Fin k0_t1_loop.trips, ∀ (r : Fin 2), ∀ a, (k0_off21 k0_t1 (BitVec.ofNat 32 r.val)) a + S128.size a ≤ S10496.size a
  k0_off22_inb : ∀ (i : grid0.Coords) (k0_t1 : Fin k0_t1_loop.trips), ∀ (k0_h2 : k0_cond2 k0_t1 = 1#1), ∀ a, (k0_off22 i k0_t1) a + S4x128.size a ≤ S10240x128.size a
  k0_t3_ok : k0_t3_loop.OK
  k0_off23_inb : ∀ k0_t3 : Fin k0_t3_loop.trips, ∀ (r : Fin 32), ∀ a, (k0_off23 k0_t3 (BitVec.ofNat 32 r.val)) a + S1x1x16.size a ≤ S2x128x128.size a
  k0_off24_inb : ∀ k0_t3 : Fin k0_t3_loop.trips, ∀ a, (k0_off24 k0_t3) a + S1x1x16.size a ≤ S2x4x128.size a
  k0_off25_inb : ∀ k0_t3 : Fin k0_t3_loop.trips, ∀ (r : Fin 32), ∀ a, (k0_off25 k0_t3 (BitVec.ofNat 32 r.val)) a + S1x1x16.size a ≤ S2x128x128.size a
  k0_off26_inb : ∀ k0_t3 : Fin k0_t3_loop.trips, ∀ a, (k0_off26 k0_t3) a + S1x1x16.size a ≤ S2x4x128.size a
  k0_off27_inb : ∀ k0_t3 : Fin k0_t3_loop.trips, ∀ (r : Fin 32), ∀ a, (k0_off27 k0_t3 (BitVec.ofNat 32 r.val)) a + S1x1x16.size a ≤ S2x128x128.size a
  k0_off28_inb : ∀ k0_t3 : Fin k0_t3_loop.trips, ∀ a, (k0_off28 k0_t3) a + S1x1x16.size a ≤ S2x4x128.size a
  k0_off29_inb : ∀ k0_t3 : Fin k0_t3_loop.trips, ∀ (r : Fin 32), ∀ a, (k0_off29 k0_t3 (BitVec.ofNat 32 r.val)) a + S1x1x16.size a ≤ S2x128x128.size a
  k0_off30_inb : ∀ k0_t3 : Fin k0_t3_loop.trips, ∀ a, (k0_off30 k0_t3) a + S1x1x16.size a ≤ S2x4x128.size a
  k0_off31_inb : ∀ k0_t3 : Fin k0_t3_loop.trips, ∀ (r : Fin 32), ∀ a, (k0_off31 k0_t3 (BitVec.ofNat 32 r.val)) a + S1x1x16.size a ≤ S2x128x128.size a
  k0_off32_inb : ∀ k0_t3 : Fin k0_t3_loop.trips, ∀ a, (k0_off32 k0_t3) a + S1x1x16.size a ≤ S2x4x128.size a
  k0_off33_inb : ∀ k0_t3 : Fin k0_t3_loop.trips, ∀ (r : Fin 32), ∀ a, (k0_off33 k0_t3 (BitVec.ofNat 32 r.val)) a + S1x1x16.size a ≤ S2x128x128.size a
  k0_off34_inb : ∀ k0_t3 : Fin k0_t3_loop.trips, ∀ a, (k0_off34 k0_t3) a + S1x1x16.size a ≤ S2x4x128.size a
  k0_off35_inb : ∀ k0_t3 : Fin k0_t3_loop.trips, ∀ (r : Fin 32), ∀ a, (k0_off35 k0_t3 (BitVec.ofNat 32 r.val)) a + S1x1x16.size a ≤ S2x128x128.size a
  k0_off36_inb : ∀ k0_t3 : Fin k0_t3_loop.trips, ∀ a, (k0_off36 k0_t3) a + S1x1x16.size a ≤ S2x4x128.size a
  k0_off37_inb : ∀ k0_t3 : Fin k0_t3_loop.trips, ∀ (r : Fin 32), ∀ a, (k0_off37 k0_t3 (BitVec.ofNat 32 r.val)) a + S1x1x16.size a ≤ S2x128x128.size a
  k0_off38_inb : ∀ k0_t3 : Fin k0_t3_loop.trips, ∀ a, (k0_off38 k0_t3) a + S1x1x16.size a ≤ S2x4x128.size a
  k0_off39_inb : ∀ i : grid0.Coords, ∀ a, (k0_off39 i) a + S4x128.size a ≤ S10240x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S10000x128.size a
  hwx1_3 : ∀ i : grid1.Coords, EltTy.bits .f32 = 32 ∨ (Rect.block (s := S10000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S10000x128.size a
  hwx2_0 : ∀ i : grid2.Coords, EltTy.bits .f32 = 32 ∨ (Rect.block (s := S10000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2000x128.size a < S10240x128.size a
  hwx2_1 : ∀ i : grid2.Coords, EltTy.bits .f32 = 32 ∨ (Rect.unit (s := S10240x128) (fun a => cc2_transform_1 i a * S2000x128.size a) (fun a => (Pipeline.Clip.of (cc2_transform_1 i a) (S2000x128.size a) (S10240x128.size a)).extent (S2000x128.size a)) fun a => Pipeline.Clip.inb (Pipeline.Clip.ok_of (hstart2_1 i a))).WholeWords (EltTy.packing .f32)
  hwxs2_1 : ∀ i : grid2.Coords, EltTy.bits .f32 = 32 ∨ (Rect.unit (s := S2000x128) (fun _ => 0) (fun a => (Pipeline.Clip.of (cc2_transform_1 i a) (S2000x128.size a) (S10240x128.size a)).extent (S2000x128.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S10000x128.size a
  hwx2_6 : ∀ i : grid2.Coords, EltTy.bits .f32 = 32 ∨ (Rect.block (s := S10000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S10000x128.size a
  hwx2_7 : ∀ i : grid2.Coords, EltTy.bits .f32 = 32 ∨ (Rect.block (s := S10000x128) S2000x128.size (cc2_transform_7 i) (hinb2_7 i)).WholeWords (EltTy.packing .f32)
  hcore3 : grid3.bound 0 ≤ τ.nSC
  hsub3 : grid3.bound 1 ≤ τ.nSub
  k3_off1_inb : ∀ i : grid3.Coords, ∀ a, (k3_off1 i) a + S1x10496.size a ≤ S32x10496.size a
  k3_off2_inb : ∀ i : grid3.Coords, ∀ a, (k3_off2 i).1 a + (k3_off2 i).2 a ≤ S10000x128.size a
  k3_t1_ok : k3_t1_loop.OK
  k3_off3_inb : ∀ (i : grid3.Coords) (k3_t1 : Fin k3_t1_loop.trips), ∀ (k3_h1 : k3_cond1 k3_t1 = 1#1), ∀ a, (k3_off3 i k3_t1) a + S4x128.size a ≤ S10240x128.size a
  k3_t2_ok : k3_t2_loop.OK
  k3_off4_inb : ∀ k3_t2 : Fin k3_t2_loop.trips, ∀ (r : Fin 32), ∀ a, (k3_off4 k3_t2 (BitVec.ofNat 32 r.val)) a + S1x1x16.size a ≤ S2x128x128.size a
  k3_off5_inb : ∀ k3_t2 : Fin k3_t2_loop.trips, ∀ a, (k3_off5 k3_t2) a + S1x1x16.size a ≤ S2x4x128.size a
  k3_off6_inb : ∀ k3_t2 : Fin k3_t2_loop.trips, ∀ (r : Fin 32), ∀ a, (k3_off6 k3_t2 (BitVec.ofNat 32 r.val)) a + S1x1x16.size a ≤ S2x128x128.size a
  k3_off7_inb : ∀ k3_t2 : Fin k3_t2_loop.trips, ∀ a, (k3_off7 k3_t2) a + S1x1x16.size a ≤ S2x4x128.size a
  k3_off8_inb : ∀ k3_t2 : Fin k3_t2_loop.trips, ∀ (r : Fin 32), ∀ a, (k3_off8 k3_t2 (BitVec.ofNat 32 r.val)) a + S1x1x16.size a ≤ S2x128x128.size a
  k3_off9_inb : ∀ k3_t2 : Fin k3_t2_loop.trips, ∀ a, (k3_off9 k3_t2) a + S1x1x16.size a ≤ S2x4x128.size a
  k3_off10_inb : ∀ k3_t2 : Fin k3_t2_loop.trips, ∀ (r : Fin 32), ∀ a, (k3_off10 k3_t2 (BitVec.ofNat 32 r.val)) a + S1x1x16.size a ≤ S2x128x128.size a
  k3_off11_inb : ∀ k3_t2 : Fin k3_t2_loop.trips, ∀ a, (k3_off11 k3_t2) a + S1x1x16.size a ≤ S2x4x128.size a
  k3_off12_inb : ∀ k3_t2 : Fin k3_t2_loop.trips, ∀ (r : Fin 32), ∀ a, (k3_off12 k3_t2 (BitVec.ofNat 32 r.val)) a + S1x1x16.size a ≤ S2x128x128.size a
  k3_off13_inb : ∀ k3_t2 : Fin k3_t2_loop.trips, ∀ a, (k3_off13 k3_t2) a + S1x1x16.size a ≤ S2x4x128.size a
  k3_off14_inb : ∀ k3_t2 : Fin k3_t2_loop.trips, ∀ (r : Fin 32), ∀ a, (k3_off14 k3_t2 (BitVec.ofNat 32 r.val)) a + S1x1x16.size a ≤ S2x128x128.size a
  k3_off15_inb : ∀ k3_t2 : Fin k3_t2_loop.trips, ∀ a, (k3_off15 k3_t2) a + S1x1x16.size a ≤ S2x4x128.size a
  k3_off16_inb : ∀ k3_t2 : Fin k3_t2_loop.trips, ∀ (r : Fin 32), ∀ a, (k3_off16 k3_t2 (BitVec.ofNat 32 r.val)) a + S1x1x16.size a ≤ S2x128x128.size a
  k3_off17_inb : ∀ k3_t2 : Fin k3_t2_loop.trips, ∀ a, (k3_off17 k3_t2) a + S1x1x16.size a ≤ S2x4x128.size a
  k3_off18_inb : ∀ k3_t2 : Fin k3_t2_loop.trips, ∀ (r : Fin 32), ∀ a, (k3_off18 k3_t2 (BitVec.ofNat 32 r.val)) a + S1x1x16.size a ≤ S2x128x128.size a
  k3_off19_inb : ∀ k3_t2 : Fin k3_t2_loop.trips, ∀ a, (k3_off19 k3_t2) a + S1x1x16.size a ≤ S2x4x128.size a
  k3_off20_inb : ∀ (i : grid3.Coords) (k3_t1 : Fin k3_t1_loop.trips), ∀ (r : Fin 2), ∀ a, (k3_off20 i k3_t1 (BitVec.ofNat 32 r.val)) a + S4x128.size a ≤ S10240x128.size a
  k3_off21_inb : ∀ k3_t1 : Fin k3_t1_loop.trips, ∀ (r : Fin 2), ∀ a, (k3_off21 k3_t1 (BitVec.ofNat 32 r.val)) a + S128.size a ≤ S10496.size a
  k3_off22_inb : ∀ (i : grid3.Coords) (k3_t1 : Fin k3_t1_loop.trips), ∀ (k3_h2 : k3_cond2 k3_t1 = 1#1), ∀ a, (k3_off22 i k3_t1) a + S4x128.size a ≤ S10240x128.size a
  k3_t3_ok : k3_t3_loop.OK
  k3_off23_inb : ∀ k3_t3 : Fin k3_t3_loop.trips, ∀ (r : Fin 32), ∀ a, (k3_off23 k3_t3 (BitVec.ofNat 32 r.val)) a + S1x1x16.size a ≤ S2x128x128.size a
  k3_off24_inb : ∀ k3_t3 : Fin k3_t3_loop.trips, ∀ a, (k3_off24 k3_t3) a + S1x1x16.size a ≤ S2x4x128.size a
  k3_off25_inb : ∀ k3_t3 : Fin k3_t3_loop.trips, ∀ (r : Fin 32), ∀ a, (k3_off25 k3_t3 (BitVec.ofNat 32 r.val)) a + S1x1x16.size a ≤ S2x128x128.size a
  k3_off26_inb : ∀ k3_t3 : Fin k3_t3_loop.trips, ∀ a, (k3_off26 k3_t3) a + S1x1x16.size a ≤ S2x4x128.size a
  k3_off27_inb : ∀ k3_t3 : Fin k3_t3_loop.trips, ∀ (r : Fin 32), ∀ a, (k3_off27 k3_t3 (BitVec.ofNat 32 r.val)) a + S1x1x16.size a ≤ S2x128x128.size a
  k3_off28_inb : ∀ k3_t3 : Fin k3_t3_loop.trips, ∀ a, (k3_off28 k3_t3) a + S1x1x16.size a ≤ S2x4x128.size a
  k3_off29_inb : ∀ k3_t3 : Fin k3_t3_loop.trips, ∀ (r : Fin 32), ∀ a, (k3_off29 k3_t3 (BitVec.ofNat 32 r.val)) a + S1x1x16.size a ≤ S2x128x128.size a
  k3_off30_inb : ∀ k3_t3 : Fin k3_t3_loop.trips, ∀ a, (k3_off30 k3_t3) a + S1x1x16.size a ≤ S2x4x128.size a
  k3_off31_inb : ∀ k3_t3 : Fin k3_t3_loop.trips, ∀ (r : Fin 32), ∀ a, (k3_off31 k3_t3 (BitVec.ofNat 32 r.val)) a + S1x1x16.size a ≤ S2x128x128.size a
  k3_off32_inb : ∀ k3_t3 : Fin k3_t3_loop.trips, ∀ a, (k3_off32 k3_t3) a + S1x1x16.size a ≤ S2x4x128.size a
  k3_off33_inb : ∀ k3_t3 : Fin k3_t3_loop.trips, ∀ (r : Fin 32), ∀ a, (k3_off33 k3_t3 (BitVec.ofNat 32 r.val)) a + S1x1x16.size a ≤ S2x128x128.size a
  k3_off34_inb : ∀ k3_t3 : Fin k3_t3_loop.trips, ∀ a, (k3_off34 k3_t3) a + S1x1x16.size a ≤ S2x4x128.size a
  k3_off35_inb : ∀ k3_t3 : Fin k3_t3_loop.trips, ∀ (r : Fin 32), ∀ a, (k3_off35 k3_t3 (BitVec.ofNat 32 r.val)) a + S1x1x16.size a ≤ S2x128x128.size a
  k3_off36_inb : ∀ k3_t3 : Fin k3_t3_loop.trips, ∀ a, (k3_off36 k3_t3) a + S1x1x16.size a ≤ S2x4x128.size a
  k3_off37_inb : ∀ k3_t3 : Fin k3_t3_loop.trips, ∀ (r : Fin 32), ∀ a, (k3_off37 k3_t3 (BitVec.ofNat 32 r.val)) a + S1x1x16.size a ≤ S2x128x128.size a
  k3_off38_inb : ∀ k3_t3 : Fin k3_t3_loop.trips, ∀ a, (k3_off38 k3_t3) a + S1x1x16.size a ≤ S2x4x128.size a
  k3_off39_inb : ∀ i : grid3.Coords, ∀ a, (k3_off39 i) a + S4x128.size a ≤ S10240x128.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S10000x128.size a
  hwx4_0 : ∀ i : grid4.Coords, EltTy.bits .f32 = 32 ∨ (Rect.block (s := S10000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S2000x128.size a < S10240x128.size a
  hwx4_1 : ∀ i : grid4.Coords, EltTy.bits .f32 = 32 ∨ (Rect.unit (s := S10240x128) (fun a => cc4_transform_1 i a * S2000x128.size a) (fun a => (Pipeline.Clip.of (cc4_transform_1 i a) (S2000x128.size a) (S10240x128.size a)).extent (S2000x128.size a)) fun a => Pipeline.Clip.inb (Pipeline.Clip.ok_of (hstart4_1 i a))).WholeWords (EltTy.packing .f32)
  hwxs4_1 : ∀ i : grid4.Coords, EltTy.bits .f32 = 32 ∨ (Rect.unit (s := S2000x128) (fun _ => 0) (fun a => (Pipeline.Clip.of (cc4_transform_1 i a) (S2000x128.size a) (S10240x128.size a)).extent (S2000x128.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S10000x128.size a
  hwx4_6 : ∀ i : grid4.Coords, EltTy.bits .f32 = 32 ∨ (Rect.block (s := S10000x128) S2000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S10000x128.size a
  hwx4_7 : ∀ i : grid4.Coords, EltTy.bits .f32 = 32 ∨ (Rect.block (s := S10000x128) S2000x128.size (cc4_transform_7 i) (hinb4_7 i)).WholeWords (EltTy.packing .f32)
  hcore5 : grid5.bound 0 ≤ τ.nSC
  hsub5 : grid5.bound 1 ≤ τ.nSub
  k5_off1_inb : ∀ i : grid5.Coords, ∀ a, (k5_off1 i) a + S1x10496.size a ≤ S32x10496.size a
  k5_off2_inb : ∀ i : grid5.Coords, ∀ a, (k5_off2 i).1 a + (k5_off2 i).2 a ≤ S10000x128.size a
  k5_t1_ok : k5_t1_loop.OK
  k5_off3_inb : ∀ (i : grid5.Coords) (k5_t1 : Fin k5_t1_loop.trips), ∀ (k5_h1 : k5_cond1 k5_t1 = 1#1), ∀ a, (k5_off3 i k5_t1) a + S4x128.size a ≤ S10240x128.size a
  k5_t2_ok : k5_t2_loop.OK
  k5_off4_inb : ∀ k5_t2 : Fin k5_t2_loop.trips, ∀ (r : Fin 32), ∀ a, (k5_off4 k5_t2 (BitVec.ofNat 32 r.val)) a + S1x1x16.size a ≤ S2x128x128.size a
  k5_off5_inb : ∀ k5_t2 : Fin k5_t2_loop.trips, ∀ a, (k5_off5 k5_t2) a + S1x1x16.size a ≤ S2x4x128.size a
  k5_off6_inb : ∀ k5_t2 : Fin k5_t2_loop.trips, ∀ (r : Fin 32), ∀ a, (k5_off6 k5_t2 (BitVec.ofNat 32 r.val)) a + S1x1x16.size a ≤ S2x128x128.size a
  k5_off7_inb : ∀ k5_t2 : Fin k5_t2_loop.trips, ∀ a, (k5_off7 k5_t2) a + S1x1x16.size a ≤ S2x4x128.size a
  k5_off8_inb : ∀ k5_t2 : Fin k5_t2_loop.trips, ∀ (r : Fin 32), ∀ a, (k5_off8 k5_t2 (BitVec.ofNat 32 r.val)) a + S1x1x16.size a ≤ S2x128x128.size a
  k5_off9_inb : ∀ k5_t2 : Fin k5_t2_loop.trips, ∀ a, (k5_off9 k5_t2) a + S1x1x16.size a ≤ S2x4x128.size a
  k5_off10_inb : ∀ k5_t2 : Fin k5_t2_loop.trips, ∀ (r : Fin 32), ∀ a, (k5_off10 k5_t2 (BitVec.ofNat 32 r.val)) a + S1x1x16.size a ≤ S2x128x128.size a
  k5_off11_inb : ∀ k5_t2 : Fin k5_t2_loop.trips, ∀ a, (k5_off11 k5_t2) a + S1x1x16.size a ≤ S2x4x128.size a
  k5_off12_inb : ∀ k5_t2 : Fin k5_t2_loop.trips, ∀ (r : Fin 32), ∀ a, (k5_off12 k5_t2 (BitVec.ofNat 32 r.val)) a + S1x1x16.size a ≤ S2x128x128.size a
  k5_off13_inb : ∀ k5_t2 : Fin k5_t2_loop.trips, ∀ a, (k5_off13 k5_t2) a + S1x1x16.size a ≤ S2x4x128.size a
  k5_off14_inb : ∀ k5_t2 : Fin k5_t2_loop.trips, ∀ (r : Fin 32), ∀ a, (k5_off14 k5_t2 (BitVec.ofNat 32 r.val)) a + S1x1x16.size a ≤ S2x128x128.size a
  k5_off15_inb : ∀ k5_t2 : Fin k5_t2_loop.trips, ∀ a, (k5_off15 k5_t2) a + S1x1x16.size a ≤ S2x4x128.size a
  k5_off16_inb : ∀ k5_t2 : Fin k5_t2_loop.trips, ∀ (r : Fin 32), ∀ a, (k5_off16 k5_t2 (BitVec.ofNat 32 r.val)) a + S1x1x16.size a ≤ S2x128x128.size a
  k5_off17_inb : ∀ k5_t2 : Fin k5_t2_loop.trips, ∀ a, (k5_off17 k5_t2) a + S1x1x16.size a ≤ S2x4x128.size a
  k5_off18_inb : ∀ k5_t2 : Fin k5_t2_loop.trips, ∀ (r : Fin 32), ∀ a, (k5_off18 k5_t2 (BitVec.ofNat 32 r.val)) a + S1x1x16.size a ≤ S2x128x128.size a
  k5_off19_inb : ∀ k5_t2 : Fin k5_t2_loop.trips, ∀ a, (k5_off19 k5_t2) a + S1x1x16.size a ≤ S2x4x128.size a
  k5_off20_inb : ∀ (i : grid5.Coords) (k5_t1 : Fin k5_t1_loop.trips), ∀ (r : Fin 2), ∀ a, (k5_off20 i k5_t1 (BitVec.ofNat 32 r.val)) a + S4x128.size a ≤ S10240x128.size a
  k5_off21_inb : ∀ k5_t1 : Fin k5_t1_loop.trips, ∀ (r : Fin 2), ∀ a, (k5_off21 k5_t1 (BitVec.ofNat 32 r.val)) a + S128.size a ≤ S10496.size a
  k5_off22_inb : ∀ (i : grid5.Coords) (k5_t1 : Fin k5_t1_loop.trips), ∀ (k5_h2 : k5_cond2 k5_t1 = 1#1), ∀ a, (k5_off22 i k5_t1) a + S4x128.size a ≤ S10240x128.size a
  k5_t3_ok : k5_t3_loop.OK
  k5_off23_inb : ∀ k5_t3 : Fin k5_t3_loop.trips, ∀ (r : Fin 32), ∀ a, (k5_off23 k5_t3 (BitVec.ofNat 32 r.val)) a + S1x1x16.size a ≤ S2x128x128.size a
  k5_off24_inb : ∀ k5_t3 : Fin k5_t3_loop.trips, ∀ a, (k5_off24 k5_t3) a + S1x1x16.size a ≤ S2x4x128.size a
  k5_off25_inb : ∀ k5_t3 : Fin k5_t3_loop.trips, ∀ (r : Fin 32), ∀ a, (k5_off25 k5_t3 (BitVec.ofNat 32 r.val)) a + S1x1x16.size a ≤ S2x128x128.size a
  k5_off26_inb : ∀ k5_t3 : Fin k5_t3_loop.trips, ∀ a, (k5_off26 k5_t3) a + S1x1x16.size a ≤ S2x4x128.size a
  k5_off27_inb : ∀ k5_t3 : Fin k5_t3_loop.trips, ∀ (r : Fin 32), ∀ a, (k5_off27 k5_t3 (BitVec.ofNat 32 r.val)) a + S1x1x16.size a ≤ S2x128x128.size a
  k5_off28_inb : ∀ k5_t3 : Fin k5_t3_loop.trips, ∀ a, (k5_off28 k5_t3) a + S1x1x16.size a ≤ S2x4x128.size a
  k5_off29_inb : ∀ k5_t3 : Fin k5_t3_loop.trips, ∀ (r : Fin 32), ∀ a, (k5_off29 k5_t3 (BitVec.ofNat 32 r.val)) a + S1x1x16.size a ≤ S2x128x128.size a
  k5_off30_inb : ∀ k5_t3 : Fin k5_t3_loop.trips, ∀ a, (k5_off30 k5_t3) a + S1x1x16.size a ≤ S2x4x128.size a
  k5_off31_inb : ∀ k5_t3 : Fin k5_t3_loop.trips, ∀ (r : Fin 32), ∀ a, (k5_off31 k5_t3 (BitVec.ofNat 32 r.val)) a + S1x1x16.size a ≤ S2x128x128.size a
  k5_off32_inb : ∀ k5_t3 : Fin k5_t3_loop.trips, ∀ a, (k5_off32 k5_t3) a + S1x1x16.size a ≤ S2x4x128.size a
  k5_off33_inb : ∀ k5_t3 : Fin k5_t3_loop.trips, ∀ (r : Fin 32), ∀ a, (k5_off33 k5_t3 (BitVec.ofNat 32 r.val)) a + S1x1x16.size a ≤ S2x128x128.size a
  k5_off34_inb : ∀ k5_t3 : Fin k5_t3_loop.trips, ∀ a, (k5_off34 k5_t3) a + S1x1x16.size a ≤ S2x4x128.size a
  k5_off35_inb : ∀ k5_t3 : Fin k5_t3_loop.trips, ∀ (r : Fin 32), ∀ a, (k5_off35 k5_t3 (BitVec.ofNat 32 r.val)) a + S1x1x16.size a ≤ S2x128x128.size a
  k5_off36_inb : ∀ k5_t3 : Fin k5_t3_loop.trips, ∀ a, (k5_off36 k5_t3) a + S1x1x16.size a ≤ S2x4x128.size a
  k5_off37_inb : ∀ k5_t3 : Fin k5_t3_loop.trips, ∀ (r : Fin 32), ∀ a, (k5_off37 k5_t3 (BitVec.ofNat 32 r.val)) a + S1x1x16.size a ≤ S2x128x128.size a
  k5_off38_inb : ∀ k5_t3 : Fin k5_t3_loop.trips, ∀ a, (k5_off38 k5_t3) a + S1x1x16.size a ≤ S2x4x128.size a
  k5_off39_inb : ∀ i : grid5.Coords, ∀ a, (k5_off39 i) a + S4x128.size a ≤ S10240x128.size a
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S10000x128.size a
  hwx6_0 : ∀ i : grid6.Coords, EltTy.bits .f32 = 32 ∨ (Rect.block (s := S10000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hstart6_1 : ∀ (i : grid6.Coords) a, cc6_transform_1 i a * S2000x128.size a < S10240x128.size a
  hwx6_1 : ∀ i : grid6.Coords, EltTy.bits .f32 = 32 ∨ (Rect.unit (s := S10240x128) (fun a => cc6_transform_1 i a * S2000x128.size a) (fun a => (Pipeline.Clip.of (cc6_transform_1 i a) (S2000x128.size a) (S10240x128.size a)).extent (S2000x128.size a)) fun a => Pipeline.Clip.inb (Pipeline.Clip.ok_of (hstart6_1 i a))).WholeWords (EltTy.packing .f32)
  hwxs6_1 : ∀ i : grid6.Coords, EltTy.bits .f32 = 32 ∨ (Rect.unit (s := S2000x128) (fun _ => 0) (fun a => (Pipeline.Clip.of (cc6_transform_1 i a) (S2000x128.size a) (S10240x128.size a)).extent (S2000x128.size a)) fun a => (Nat.zero_add _).trans_le (Pipeline.Clip.extent_le (Pipeline.Clip.ok_of (hstart6_1 i a)))).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x128.size a ≤ S10000x128.size a
  hwx6_4 : ∀ i : grid6.Coords, EltTy.bits .f32 = 32 ∨ (Rect.block (s := S10000x128) S2000x128.size (cc6_transform_4 i) (hinb6_4 i)).WholeWords (EltTy.packing .f32)

variable [Facts₀]

abbrev cc0_scratch4 : DmaSems sig S2 := SemArray.consecutive 0 S2 hcc0_scratch4
abbrev cc0_scratch5 : DmaSems sig S2 := SemArray.consecutive 2 S2 hcc0_scratch5
abbrev cc0_scoped0 : DmaSems sig S_ := SemArray.consecutive 4 S_ hcc0_scoped0
abbrev cc0_scoped1 : DmaSems sig S_ := SemArray.consecutive 5 S_ hcc0_scoped1
abbrev cc3_scratch4 : DmaSems sig S2 := SemArray.consecutive 24 S2 hcc3_scratch4
abbrev cc3_scratch5 : DmaSems sig S2 := SemArray.consecutive 26 S2 hcc3_scratch5
abbrev cc3_scoped0 : DmaSems sig S_ := SemArray.consecutive 28 S_ hcc3_scoped0
abbrev cc3_scoped1 : DmaSems sig S_ := SemArray.consecutive 29 S_ hcc3_scoped1
abbrev cc5_scratch4 : DmaSems sig S2 := SemArray.consecutive 42 S2 hcc5_scratch4
abbrev cc5_scratch5 : DmaSems sig S2 := SemArray.consecutive 44 S2 hcc5_scratch5
abbrev cc5_scoped0 : DmaSems sig S_ := SemArray.consecutive 46 S_ hcc5_scoped0
abbrev cc5_scoped1 : DmaSems sig S_ := SemArray.consecutive 47 S_ hcc5_scoped1
def scatter_S32x10496_S1_S32x10240_01_n_1_0 : ScatterDims S32x10496 S1 S32x10240 where
  updateWindowDims := [0, 1]
  insertedWindowDims := []
  scatterDimsToOperandDims := [1]
  indexVectorDim := 0
  wf := scatter_S32x10496_S1_S32x10240_01_n_1_0_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpecClip (Memref.whole main_v8) S2000x128.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_arg3) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v11_1) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win4_0 : Pipeline.Window sig grid4 :=
  Pipeline.Window.ofSpec (Memref.whole main_v11_1) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpecClip (Memref.whole main_v12) S2000x128.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpec (Memref.whole main_arg7) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v13) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v14_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v14_1) S2000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win6_0 : Pipeline.Window sig grid6 :=
  Pipeline.Window.ofSpec (Memref.whole main_v14_1) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpecClip (Memref.whole main_v15) S2000x128.size cc6_transform_1 reads6_1 false false 2 stage6_1 sem6_1
    hrank6 hreads6_1 hstart6_1 nbuf6_1 (Memref.isWhole_whole _) hwx6_1 hwxs6_1 hstage6_1

abbrev win6_2 : Pipeline.Window sig grid6 :=
  Pipeline.Window.ofSpec (Memref.whole main_arg11) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v16) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v17) S2000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S10000x32 : Shape := ⟨2, ![10000, 32]⟩
abbrev S_ : Shape := ⟨0, ![]⟩
abbrev S10000x32x1 : Shape := ⟨3, ![10000, 32, 1]⟩
abbrev S1 : Shape := ⟨1, ![1]⟩
abbrev S1x1x1 : Shape := ⟨3, ![1, 1, 1]⟩
abbrev S10000x32x128 : Shape := ⟨3, ![10000, 32, 128]⟩
abbrev S1x128 : Shape := ⟨2, ![1, 128]⟩

abbrev nBuf : Space → Nat
  | .hbm => 179
  | .vmem => 0
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128x128, .f32⟩
  | 13 => ⟨S128, .f32⟩
  | 14 => ⟨S1x320000, .i32⟩
  | 15 => ⟨S320000, .i32⟩
  | 16 => ⟨S10000x32, .i32⟩
  | 17 => ⟨S128x128, .f32⟩
  | 18 => ⟨S10000x128, .f32⟩
  | 19 => ⟨S_, .i32⟩
  | 20 => ⟨S10000x32, .i32⟩
  | 21 => ⟨S10000x32, .i1⟩
  | 22 => ⟨S_, .i32⟩
  | 23 => ⟨S10000x32, .i32⟩
  | 24 => ⟨S10000x32, .i32⟩
  | 25 => ⟨S10000x32, .i32⟩
  | 26 => ⟨S10000x32x1, .i32⟩
  | 27 => ⟨S1, .i32⟩
  | 28 => ⟨S_, .i32⟩
  | 29 => ⟨S10000x32x1, .i32⟩
  | 30 => ⟨S10000x32x1, .i1⟩
  | 31 => ⟨S1x1x1, .i32⟩
  | 32 => ⟨S10000x32x1, .i32⟩
  | 33 => ⟨S10000x32x1, .i1⟩
  | 34 => ⟨S10000x32x1, .i1⟩
  | 35 => ⟨S_, .i1⟩
  | 36 => ⟨S10000x32, .i1⟩
  | 37 => ⟨S10000x32x128, .f32⟩
  | 38 => ⟨S10000x32x128, .i1⟩
  | 39 => ⟨S_, .f32⟩
  | 40 => ⟨S10000x32x128, .f32⟩
  | 41 => ⟨S10000x32x128, .f32⟩
  | 42 => ⟨S_, .f32⟩
  | 43 => ⟨S10000x128, .f32⟩
  | 44 => ⟨S_, .f32⟩
  | 45 => ⟨S10000x128, .f32⟩
  | 46 => ⟨S10000x128, .f32⟩
  | 47 => ⟨S128x128, .f32⟩
  | 48 => ⟨S10000x128, .f32⟩
  | 49 => ⟨S128x128, .f32⟩
  | 50 => ⟨S10000x128, .f32⟩
  | 51 => ⟨S10000x128, .f32⟩
  | 52 => ⟨S10000x128, .f32⟩
  | 53 => ⟨S1x128, .f32⟩
  | 54 => ⟨S10000x128, .f32⟩
  | 55 => ⟨S10000x128, .f32⟩
  | 56 => ⟨S_, .f32⟩
  | 57 => ⟨S10000x128, .f32⟩
  | 58 => ⟨S10000x128, .i1⟩
  | 59 => ⟨S_, .f32⟩
  | 60 => ⟨S10000x128, .f32⟩
  | 61 => ⟨S10000x128, .i1⟩
  | 62 => ⟨S_, .f32⟩
  | 63 => ⟨S_, .f32⟩
  | 64 => ⟨S10000x128, .f32⟩
  | 65 => ⟨S10000x128, .f32⟩
  | 66 => ⟨S10000x128, .f32⟩
  | 67 => ⟨S_, .f32⟩
  | 68 => ⟨S10000x128, .f32⟩
  | 69 => ⟨S10000x128, .f32⟩
  | 70 => ⟨S10000x128, .f32⟩
  | 71 => ⟨S128x128, .f32⟩
  | 72 => ⟨S10000x128, .f32⟩
  | 73 => ⟨S_, .i32⟩
  | 74 => ⟨S10000x32, .i32⟩
  | 75 => ⟨S10000x32, .i1⟩
  | 76 => ⟨S_, .i32⟩
  | 77 => ⟨S10000x32, .i32⟩
  | 78 => ⟨S10000x32, .i32⟩
  | 79 => ⟨S10000x32, .i32⟩
  | 80 => ⟨S10000x32x1, .i32⟩
  | 81 => ⟨S1, .i32⟩
  | 82 => ⟨S_, .i32⟩
  | 83 => ⟨S10000x32x1, .i32⟩
  | 84 => ⟨S10000x32x1, .i1⟩
  | 85 => ⟨S1x1x1, .i32⟩
  | 86 => ⟨S10000x32x1, .i32⟩
  | 87 => ⟨S10000x32x1, .i1⟩
  | 88 => ⟨S10000x32x1, .i1⟩
  | 89 => ⟨S_, .i1⟩
  | 90 => ⟨S10000x32, .i1⟩
  | 91 => ⟨S10000x32x128, .f32⟩
  | 92 => ⟨S10000x32x128, .i1⟩
  | 93 => ⟨S_, .f32⟩
  | 94 => ⟨S10000x32x128, .f32⟩
  | 95 => ⟨S10000x32x128, .f32⟩
  | 96 => ⟨S_, .f32⟩
  | 97 => ⟨S10000x128, .f32⟩
  | 98 => ⟨S_, .f32⟩
  | 99 => ⟨S10000x128, .f32⟩
  | 100 => ⟨S10000x128, .f32⟩
  | 101 => ⟨S128x128, .f32⟩
  | 102 => ⟨S10000x128, .f32⟩
  | 103 => ⟨S128x128, .f32⟩
  | 104 => ⟨S10000x128, .f32⟩
  | 105 => ⟨S10000x128, .f32⟩
  | 106 => ⟨S10000x128, .f32⟩
  | 107 => ⟨S1x128, .f32⟩
  | 108 => ⟨S10000x128, .f32⟩
  | 109 => ⟨S10000x128, .f32⟩
  | 110 => ⟨S_, .f32⟩
  | 111 => ⟨S10000x128, .f32⟩
  | 112 => ⟨S10000x128, .i1⟩
  | 113 => ⟨S_, .f32⟩
  | 114 => ⟨S10000x128, .f32⟩
  | 115 => ⟨S10000x128, .i1⟩
  | 116 => ⟨S_, .f32⟩
  | 117 => ⟨S_, .f32⟩
  | 118 => ⟨S10000x128, .f32⟩
  | 119 => ⟨S10000x128, .f32⟩
  | 120 => ⟨S10000x128, .f32⟩
  | 121 => ⟨S_, .f32⟩
  | 122 => ⟨S10000x128, .f32⟩
  | 123 => ⟨S10000x128, .f32⟩
  | 124 => ⟨S10000x128, .f32⟩
  | 125 => ⟨S128x128, .f32⟩
  | 126 => ⟨S10000x128, .f32⟩
  | 127 => ⟨S_, .i32⟩
  | _ => ⟨S10000x128, .f32⟩

abbrev hbmTy0_1 (i : Nat) : BufTy := match i % 128 with
  | 0 => ⟨S10000x32, .i32⟩
  | 1 => ⟨S10000x32, .i1⟩
  | 2 => ⟨S_, .i32⟩
  | 3 => ⟨S10000x32, .i32⟩
  | 4 => ⟨S10000x32, .i32⟩
  | 5 => ⟨S10000x32, .i32⟩
  | 6 => ⟨S10000x32x1, .i32⟩
  | 7 => ⟨S1, .i32⟩
  | 8 => ⟨S_, .i32⟩
  | 9 => ⟨S10000x32x1, .i32⟩
  | 10 => ⟨S10000x32x1, .i1⟩
  | 11 => ⟨S1x1x1, .i32⟩
  | 12 => ⟨S10000x32x1, .i32⟩
  | 13 => ⟨S10000x32x1, .i1⟩
  | 14 => ⟨S10000x32x1, .i1⟩
  | 15 => ⟨S_, .i1⟩
  | 16 => ⟨S10000x32, .i1⟩
  | 17 => ⟨S10000x32x128, .f32⟩
  | 18 => ⟨S10000x32x128, .i1⟩
  | 19 => ⟨S_, .f32⟩
  | 20 => ⟨S10000x32x128, .f32⟩
  | 21 => ⟨S10000x32x128, .f32⟩
  | 22 => ⟨S_, .f32⟩
  | 23 => ⟨S10000x128, .f32⟩
  | 24 => ⟨S_, .f32⟩
  | 25 => ⟨S10000x128, .f32⟩
  | 26 => ⟨S10000x128, .f32⟩
  | 27 => ⟨S128x128, .f32⟩
  | 28 => ⟨S10000x128, .f32⟩
  | 29 => ⟨S128x128, .f32⟩
  | 30 => ⟨S10000x128, .f32⟩
  | 31 => ⟨S10000x128, .f32⟩
  | 32 => ⟨S10000x128, .f32⟩
  | 33 => ⟨S1x128, .f32⟩
  | 34 => ⟨S10000x128, .f32⟩
  | 35 => ⟨S10000x128, .f32⟩
  | 36 => ⟨S_, .f32⟩
  | 37 => ⟨S10000x128, .f32⟩
  | 38 => ⟨S10000x128, .i1⟩
  | 39 => ⟨S_, .f32⟩
  | 40 => ⟨S10000x128, .f32⟩
  | 41 => ⟨S10000x128, .i1⟩
  | 42 => ⟨S_, .f32⟩
  | 43 => ⟨S_, .f32⟩
  | 44 => ⟨S10000x128, .f32⟩
  | 45 => ⟨S10000x128, .f32⟩
  | 46 => ⟨S10000x128, .f32⟩
  | 47 => ⟨S_, .f32⟩
  | 48 => ⟨S10000x128, .f32⟩
  | 49 => ⟨S10000x128, .f32⟩
  | 50 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v5 : Ref sig .tc := ⟨.hbm, 41, rfl⟩
abbrev main_cst : Ref sig .tc := ⟨.hbm, 42, rfl⟩
abbrev main_v6 : Ref sig .tc := ⟨.hbm, 43, rfl⟩
abbrev main_cst_0 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_cst_0 : Ref sig .tc := ⟨.hbm, 59, rfl⟩
abbrev main_call1_v2 : Ref sig .tc := ⟨.hbm, 60, rfl⟩
abbrev main_call1_v3 : Ref sig .tc := ⟨.hbm, 61, rfl⟩
abbrev main_call1_cst_1 : Ref sig .tc := ⟨.hbm, 62, rfl⟩
abbrev main_call1_call0_v0 : Ref sig .tc := ⟨.hbm, 63, rfl⟩
abbrev main_call1_call0_v1 : Ref sig .tc := ⟨.hbm, 64, rfl⟩
abbrev main_call1_v4 : Ref sig .tc := ⟨.hbm, 65, rfl⟩
abbrev main_call1_v5 : Ref sig .tc := ⟨.hbm, 66, rfl⟩
abbrev main_call1_cst_2 : Ref sig .tc := ⟨.hbm, 67, rfl⟩
abbrev main_call1_v6 : Ref sig .tc := ⟨.hbm, 68, rfl⟩
abbrev main_call1_v7 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v21 : Ref sig .tc := ⟨.hbm, 95, rfl⟩
abbrev main_cst_1 : Ref sig .tc := ⟨.hbm, 96, rfl⟩
abbrev main_v22 : Ref sig .tc := ⟨.hbm, 97, rfl⟩
abbrev main_cst_2 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_call3_cst : Ref sig .tc := ⟨.hbm, 110, rfl⟩
abbrev main_call3_v0 : Ref sig .tc := ⟨.hbm, 111, rfl⟩
abbrev main_call3_v1 : Ref sig .tc := ⟨.hbm, 112, rfl⟩
abbrev main_call3_cst_0 : Ref sig .tc := ⟨.hbm, 113, rfl⟩
abbrev main_call3_v2 : Ref sig .tc := ⟨.hbm, 114, rfl⟩
abbrev main_call3_v3 : Ref sig .tc := ⟨.hbm, 115, rfl⟩
abbrev main_call3_cst_1 : Ref sig .tc := ⟨.hbm, 116, rfl⟩
abbrev main_call3_call0_v0 : Ref sig .tc := ⟨.hbm, 117, rfl⟩
abbrev main_call3_call0_v1 : Ref sig .tc := ⟨.hbm, 118, rfl⟩
abbrev main_call3_v4 : Ref sig .tc := ⟨.hbm, 119, rfl⟩
abbrev main_call3_v5 : Ref sig .tc := ⟨.hbm, 120, rfl⟩
abbrev main_call3_cst_2 : Ref sig .tc := ⟨.hbm, 121, rfl⟩
abbrev main_call3_v6 : Ref sig .tc := ⟨.hbm, 122, rfl⟩
abbrev main_call3_v7 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_call4_c : Ref sig .tc := ⟨.hbm, 127, rfl⟩
abbrev main_call4_v0 : Ref sig .tc := ⟨.hbm, 128, rfl⟩
abbrev main_call4_v1 : Ref sig .tc := ⟨.hbm, 129, rfl⟩
abbrev main_call4_c_0 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_c_1 : Ref sig .tc := ⟨.hbm, 135, rfl⟩
abbrev main_call4_c_2 : Ref sig .tc := ⟨.hbm, 136, rfl⟩
abbrev main_call4_v6 : Ref sig .tc := ⟨.hbm, 137, rfl⟩
abbrev main_call4_v7 : Ref sig .tc := ⟨.hbm, 138, rfl⟩
abbrev main_call4_v8 : Ref sig .tc := ⟨.hbm, 139, rfl⟩
abbrev main_call4_v9 : Ref sig .tc := ⟨.hbm, 140, rfl⟩
abbrev main_call4_v10 : Ref sig .tc := ⟨.hbm, 141, rfl⟩
abbrev main_call4_v11 : Ref sig .tc := ⟨.hbm, 142, rfl⟩
abbrev main_call4_c_3 : Ref sig .tc := ⟨.hbm, 143, rfl⟩
abbrev main_call4_v12 : Ref sig .tc := ⟨.hbm, 144, rfl⟩
abbrev main_call4_v13 : Ref sig .tc := ⟨.hbm, 145, rfl⟩
abbrev main_call4_v14 : Ref sig .tc := ⟨.hbm, 146, rfl⟩
abbrev main_call4_cst : Ref sig .tc := ⟨.hbm, 147, rfl⟩
abbrev main_call4_v15 : Ref sig .tc := ⟨.hbm, 148, rfl⟩
abbrev main_v37 : Ref sig .tc := ⟨.hbm, 149, rfl⟩
abbrev main_cst_3 : Ref sig .tc := ⟨.hbm, 150, rfl⟩
abbrev main_v38 : Ref sig .tc := ⟨.hbm, 151, rfl⟩
abbrev main_cst_4 : Ref sig .tc := ⟨.hbm, 152, rfl⟩
abbrev main_v39 : Ref sig .tc := ⟨.hbm, 153, rfl⟩
abbrev main_v40 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_call5_cst : Ref sig .tc := ⟨.hbm, 164, rfl⟩
abbrev main_call5_v0 : Ref sig .tc := ⟨.hbm, 165, rfl⟩
abbrev main_call5_v1 : Ref sig .tc := ⟨.hbm, 166, rfl⟩
abbrev main_call5_cst_0 : Ref sig .tc := ⟨.hbm, 167, rfl⟩
abbrev main_call5_v2 : Ref sig .tc := ⟨.hbm, 168, rfl⟩
abbrev main_call5_v3 : Ref sig .tc := ⟨.hbm, 169, rfl⟩
abbrev main_call5_cst_1 : Ref sig .tc := ⟨.hbm, 170, rfl⟩
abbrev main_call5_call0_v0 : Ref sig .tc := ⟨.hbm, 171, rfl⟩
abbrev main_call5_call0_v1 : Ref sig .tc := ⟨.hbm, 172, rfl⟩
abbrev main_call5_v4 : Ref sig .tc := ⟨.hbm, 173, rfl⟩
abbrev main_call5_v5 : Ref sig .tc := ⟨.hbm, 174, rfl⟩
abbrev main_call5_cst_2 : Ref sig .tc := ⟨.hbm, 175, rfl⟩
abbrev main_call5_v6 : Ref sig .tc := ⟨.hbm, 176, rfl⟩
abbrev main_call5_v7 : Ref sig .tc := ⟨.hbm, 177, rfl⟩
abbrev main_v50 : Ref sig .tc := ⟨.hbm, 178, rfl⟩

abbrev nD : Nat := 1
abbrev τ : Topo := Topo.v7x

variable {F : FTy → Type} [FloatOps F]

class Facts₀ : Prop where
  slices_S2x320000_S1x320000_1_0 : S2x320000.Slices ![1, 0] S1x320000
  shapeCasts_S1x320000_S320000 : S1x320000.ShapeCasts S320000
  shapeCasts_S320000_S10000x32 : S320000.ShapeCasts S10000x32
  transposes_S128x128_S128x128_1_0 : S128x128.Transposes [1, 0] S128x128
  bcast_S_S10000x32 : S_.BroadcastsInDim S10000x32 (![] : Fin 0 → Fin S10000x32.rank)
  bcast_S10000x32_S10000x32x1_0_1 : S10000x32.BroadcastsInDim S10000x32x1 (![0, 1] : Fin 2 → Fin S10000x32x1.rank)
  bcast_S_S10000x32x1 : S_.BroadcastsInDim S10000x32x1 (![] : Fin 0 → Fin S10000x32x1.rank)
  bcast_S1_S1x1x1_2 : S1.BroadcastsInDim S1x1x1 (![2] : Fin 1 → Fin S1x1x1.rank)
  bcast_S1x1x1_S10000x32x1_0_1_2 : S1x1x1.BroadcastsInDim S10000x32x1 (![0, 1, 2] : Fin 3 → Fin S10000x32x1.rank)
  reducesTo_S10000x32x1_S10000x32_d2 : S10000x32x1.ReducesTo [2] S10000x32
  h_S_ : 0 < S_.numel
  bcast_S10000x32_S10000x32x128_0_1 : S10000x32.BroadcastsInDim S10000x32x128 (![0, 1] : Fin 2 → Fin S10000x32x128.rank)
  bcast_S_S10000x32x128 : S_.BroadcastsInDim S10000x32x128 (![] : Fin 0 → Fin S10000x32x128.rank)
  reducesTo_S10000x32x128_S10000x128_d1 : S10000x32x128.ReducesTo [1] S10000x128
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  gather_S10000x128_S10000x32x1_S10000x32x128_2_0_n_n_0_2_1128_wf : GatherDims.WF S10000x128 S10000x32x1 S10000x32x128 [2] [0] [] [0] [] 2 ![1, 128]

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S10000x32x1_S10000x32x128_2_0_n_n_0_2_1128 : GatherDims S10000x128 S10000x32x1 S10000x32x128 where
  offsetDims := [2]
  collapsedSliceDims := [0]
  operandBatchingDims := []
  startIndicesBatchingDims := []
  startIndexMap := [0]
  indexVectorDim := 2
  sliceSizes := ![1, 128]
  wf := gather_S10000x128_S10000x32x1_S10000x32x128_2_0_n_n_0_2_1128_wf

class Facts : Prop extends Facts₀ where

variable [Facts]
-- ==== Proof.Spec.lean ====
/-
  The mathematics both programs compute, over the extended reals, on plain index types.

  A graph of 10000 nodes, each with exactly 32 in-neighbours (`nb n k` is the k-th neighbour of node `n`), carries a
  feature row of 128 numbers per node.  One layer maps features `h` to
      ELU( mean_k h[nb n k] · Wlᵀ  +  h · Wsᵀ  +  h · Wgᵀ  +  b ).
  The reference computes it in that order (the mean as the neighbour sum divided by 32, three separate products);
  the kernel computes  ELU( h · (Wg + Ws)ᵀ  +  (Σ_k h[nb n k]) · (Wl · (1/32))ᵀ  +  b ).
  On finite inputs the two agree: x / 32 = x · (1/32) on every extended real, multiplication is commutative and
  associative, and a product distributes over a sum of two REAL numbers.  ELU keeps real numbers real, so the
  agreement carries through the three layers.
-/
import Idealize.ShloMosaic.PureOps.Ideal

noncomputable section

namespace Cert.Spec

open Idealize.ShloMosaic
open scoped BigOperators

/-- An `a × b` array of extended reals. -/
abbrev Mat (a b : Nat) : Type := Fin a → Fin b → EReal

/-- The neighbour table: node `n`'s `k`-th neighbour. -/
abbrev Nbr : Type := Fin 10000 → Fin 32 → Fin 10000

/-- The real number 32 and its reciprocal, as extended reals. -/
def c32 : EReal := ((32 : ℝ) : EReal)
def inv32 : EReal := ((1 / 32 : ℝ) : EReal)

/-- ELU as the reference spells it: `a` where `a > 0`, else `1 · (exp(a') − 1)` with `a'` the "safe" argument
    (`0` where `a > 0`, else `a`). -/
def eluRef (a : EReal) : EReal := if 0 < a then a else 1 * (Ideal.exp (if 0 < a then 0 else a) - 1)

/-- ELU as the kernel spells it: `a` where `a > 0`, else `exp a − 1`. -/
def eluKer (a : EReal) : EReal := if 0 < a then a else Ideal.exp a - 1

/-- The sum of a node's 32 neighbour rows. -/
def agg (nb : Nbr) (h : Mat 10000 128) : Mat 10000 128 := fun n j => ∑ k : Fin 32, h (nb n k) j

/-- One layer as the reference computes it: ((local + self) + global) + bias, the local term through the MEAN. -/
def layerRef (nb : Nbr) (h : Mat 10000 128) (Wg Wl Ws : Mat 128 128) (b : Fin 128 → EReal) : Mat 10000 128 := fun n o =>
  eluRef ((((∑ j : Fin 128, Ideal.div (agg nb h n j) c32 * Wl o j) + (∑ j : Fin 128, h n j * Ws o j))
    + (∑ j : Fin 128, h n j * Wg o j)) + b o)

/-- One layer as the kernel computes it: (h·(Wg+Ws)ᵀ + (neighbour sum)·(Wl·(1/32))ᵀ) + bias. -/
def layerKer (nb : Nbr) (h : Mat 10000 128) (Wg Wl Ws : Mat 128 128) (b : Fin 128 → EReal) : Mat 10000 128 := fun n o =>
  eluKer (((∑ j : Fin 128, h n j * (Wg o j + Ws o j)) + (∑ j : Fin 128, agg nb h n j * (Wl o j * inv32))) + b o)

/-- The three layers, reference order. -/
def netRef (nb : Nbr) (x : Mat 10000 128) (Wg0 Wl0 Ws0 : Mat 128 128) (b0 : Fin 128 → EReal) (Wg1 Wl1 Ws1 : Mat 128 128)
    (b1 : Fin 128 → EReal) (Wg2 Wl2 Ws2 : Mat 128 128) (b2 : Fin 128 → EReal) : Mat 10000 128 :=
  layerRef nb (layerRef nb (layerRef nb x Wg0 Wl0 Ws0 b0) Wg1 Wl1 Ws1 b1) Wg2 Wl2 Ws2 b2

/-- The three layers, kernel order. -/
def netKer (nb : Nbr) (x : Mat 10000 128) (Wg0 Wl0 Ws0 : Mat 128 128) (b0 : Fin 128 → EReal) (Wg1 Wl1 Ws1 : Mat 128 128)
    (b1 : Fin 128 → EReal) (Wg2 Wl2 Ws2 : Mat 128 128) (b2 : Fin 128 → EReal) : Mat 10000 128 :=
  layerKer nb (layerKer nb (layerKer nb x Wg0 Wl0 Ws0 b0) Wg1 Wl1 Ws1 b1) Wg2 Wl2 Ws2 b2

/-- Every entry is a real number. -/
def FiniteM {a b : Nat} (h : Mat a b) : Prop := ∀ i j, ∃ r : ℝ, h i j = (r : EReal)
def FiniteV {a : Nat} (v : Fin a → EReal) : Prop := ∀ i, ∃ r : ℝ, v i = (r : EReal)

end Cert.Spec

end
-- ==== Proof.SpecIdx.lean ====
/-
  Arrays of the program's shapes read as the specification's plain-index arrays: a [10000,128] or [128,128] array
  as a matrix of its two coordinates, a [128] array as a vector, and row 1 of the [2,320000] edge array as the
  neighbour table (node n's 32 neighbours sit at columns 32·n … 32·n+31).
-/
import proofs.«205366_g3083786518796_cont_9to1_852_38_alg».proof.Proof.Spec
import Idealize.ShloMosaic.Lib.ValueIdx

noncomputable section

namespace Cert.SpecIdx

open Idealize.ShloMosaic ValueIdx

/-- A [10000,128] array as the matrix of its entries. -/
def matOf (x : (⟨2, ![10000, 128]⟩ : Shape).Idx → EReal) : Cert.Spec.Mat 10000 128 := fun n j => x (ix2 n j)

/-- A [128,128] array as the matrix of its entries. -/
def wOf (w : (⟨2, ![128, 128]⟩ : Shape).Idx → EReal) : Cert.Spec.Mat 128 128 := fun o j => w (ix2 o j)

/-- A [128] array as the vector of its entries. -/
def bOf (b : (⟨1, ![128]⟩ : Shape).Idx → EReal) : Fin 128 → EReal := fun o => b (ix1 o)

/-- Row 1 of the edge array as the neighbour table; the word is read as a natural number and reduced below 10000
    (the identity on words in 0 … 9999). -/
def nbOf (e : (⟨2, ![2, 320000]⟩ : Shape).Idx → BitVec 32) : Cert.Spec.Nbr := fun n k =>
  ⟨(e (ix2 (1 : Fin 2) ⟨n.val * 32 + k.val, by omega⟩)).toNat % 10000, Nat.mod_lt _ (by decide)⟩

end Cert.SpecIdx

end
-- ==== Proof.ScSetup.lean ====
/-
  The idealized kernel program as the SparseCore launch theorem sees it: three SparseCore calls (each a vector-subcore
  kernel on 2 SparseCores × 16 subcores) beside four TensorCore pipelines, the thread family's label table, and the
  resource algebra of the proof: the launch handshakes' rounds, the subcore-barrier cells' rounds, the TensorCore
  pipelines' staging cells' rounds, and the transfers' counters.
-/
import proofs.«205366_g3083786518796_cont_9to1_852_38_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«205366_g3083786518796_cont_9to1_852_38_alg».proof.Proof.Gen.KernelIdeal
import proofs.«205366_g3083786518796_cont_9to1_852_38_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 4) fun p => (pcfgs (F := F) p).Adm
abbrev K : SparseCore.Cfg τ sig (ΛP (F := F)) 3 := sc (F := F)
theorem nSub_eq : ∀ q : Fin 3, (K (F := F)).nSub q = 16 := fun | 0 => rfl | 1 => rfl | 2 => rfl
theorem nCore_eq : ∀ q : Fin 3, (K (F := F)).nCore q = 2 := fun | 0 => rfl | 1 => rfl | 2 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The subcore-barrier cells' rounds. -/
abbrev UB : Type := URounds (GSem nD τ sig) ℕ
/-- The TensorCore pipelines' staging cells' rounds. -/
abbrev UR : Type := URounds (GSem nD τ sig) Unit
abbrev UU : Type := UH × (UB × (UR × Counters))

local notation "𝕄" => MT nD τ sig (HIx 3) (Elt F) ℕ UU ℕ

abbrev EH : Emb UH (MT nD τ sig (HIx 3) (Elt F) ℕ UU ℕ) := embL
def EB : Emb UB (MT nD τ sig (HIx 3) (Elt F) ℕ UU ℕ) :=
  ((Emb.inl : Emb UB (UB × (UR × Counters))).trans (Emb.inr : Emb (UB × (UR × Counters)) UU)).trans
    (uEmb (nD := nD) (sig := sig) (Ix := HIx 3) (Val := Elt F) (Name := ℕ) (U := UU) (Lvl := ℕ)).toEmb
instance EB_landsIn : (EB : Emb UB 𝕄).LandsIn (upEmb : UEmb _ 𝕄) := by unfold EB; infer_instance
def ER : Emb UR (MT nD τ sig (HIx 3) (Elt F) ℕ UU ℕ) :=
  ((((Emb.inl : Emb UR (UR × Counters)).trans (Emb.inr : Emb (UR × Counters) (UB × (UR × Counters)))).trans
      (Emb.inr : Emb (UB × (UR × Counters)) UU))).trans
    (uEmb (nD := nD) (sig := sig) (Ix := HIx 3) (Val := Elt F) (Name := ℕ) (U := UU) (Lvl := ℕ)).toEmb
instance ER_landsIn : (ER : Emb UR 𝕄).LandsIn (upEmb : UEmb _ 𝕄) := by unfold ER; infer_instance

end Cert.Proof.KI

end
-- ==== Proof.ScPay.lean ====
/-
  What the launch handshakes carry, call by call, and the subcore-barrier cells' schedule.

  Call q (q = 0, 1, 2) sums, for each of the 10240 padded nodes, the 32 rows of the table T_q that the node's index
  row names.  Worker w = 2·i + c (tile i of SparseCore c) owns output rows [320·w, 320·w + 320), reads row w of the
  index table, and stages rows [624·i, 624·i + n_i) of the table into its SparseCore's shared buffer (n_i = 624, the
  last tile 640).  The payloads NAME the contents: call q's table holds `Tb q d` and the index table `Ib d` on device d — parameters here,
  instantiated by the launch with the pure terms of the launch memory that the program computes.  The result is stated
  as a relation between those contents and what the output rows hold.

  The barrier semaphore is one unscoped semaphore per tile, used by all three calls: cell j takes round q for call
  q, a unit duty per tile of its SparseCore.  "Cell j has reached round q" and each tile's position in its own cell
  travel with the handshakes from call to call (for q = 0 they are dealt at the launch).
-/
import proofs.«205366_g3083786518796_cont_9to1_852_38_alg».proof.Proof.ScSetup
import Idealize.ShloMosaic.Lib.ValueIdx
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 3) (Elt F) ℕ UU ℕ

/-! ## Workers and their rows -/

/-- Tile `i` of SparseCore `c` is worker `2·i + c`. -/
def wid (c : Fin 2) (i : Fin 16) : Fin 32 := ⟨2 * i.val + c.val, by omega⟩

/-- How many table rows tile `i` stages: 624, the last tile 640. -/
def nStage (i : Fin 16) : ℕ := if i.val = 15 then 640 else 624

/-- Worker `w`'s 320 output rows, as a rectangle of the padded output. -/
def outRect (w : Fin 32) : Rect S10240x128 :=
  Rect.unit (s := S10240x128) ![320 * w.val, 0] ![320, 128] (by intro a; fin_cases a <;> simp <;> omega)

/-- Worker `w`'s row of the index table. -/
def idxRect (w : Fin 32) : Rect S32x10496 :=
  Rect.unit (s := S32x10496) ![w.val, 0] ![1, 10496] (by intro a; fin_cases a <;> simp <;> omega)

/-- The rows of the table (and of the shared buffer) tile `i` stages. -/
def stageRect (i : Fin 16) : Rect S10000x128 :=
  Rect.unit (s := S10000x128) ![624 * i.val, 0] ![nStage i, 128] (by intro a; fin_cases a <;> simp [nStage] <;> split <;> omega)

/-! ## The barrier cells and their schedule -/

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

theorem nSub_τ : τ.nSub = 16 := rfl
theorem nSC_τ : τ.nSC = 2 := rfl

/-! ## One call's payloads, over its locations

The definitions take the call's locations (the table, the index table, the output, the SparseCore's shared buffer),
a reader of the output's contents and writers of the others', so that one text serves the three calls. -/

/-- SparseCore `c`'s read token of a whole array, and tile `i`'s token of that. -/
abbrev coreShare (c : Fin 2) : PosShare TreeShare := shareTok fullShare 2 c
abbrev tileShare (c : Fin 2) (i : Fin 16) : PosShare TreeShare := shareTok (coreShare c) 16 i

/-- Every index worker `w` reads names a row of the table. -/
def IdxOk (w : Fin 32) (I : S32x10496.Idx → BitVec 32) : Prop := ∀ k : Fin 10496, (I (ValueIdx.ix2 w k)).toNat < 10000

/-- The balanced tree of additions the kernel sums 32 numbers with: five levels of pairwise sums. -/
def tree32 [FloatOps F] (v : Fin 32 → F .f32) : F .f32 :=
  let l1 : Fin 16 → F .f32 := fun t => FloatOps.addf (v ⟨2 * t.val, by omega⟩) (v ⟨2 * t.val + 1, by omega⟩)
  let l2 : Fin 8 → F .f32 := fun t => FloatOps.addf (l1 ⟨2 * t.val, by omega⟩) (l1 ⟨2 * t.val + 1, by omega⟩)
  let l3 : Fin 4 → F .f32 := fun t => FloatOps.addf (l2 ⟨2 * t.val, by omega⟩) (l2 ⟨2 * t.val + 1, by omega⟩)
  let l4 : Fin 2 → F .f32 := fun t => FloatOps.addf (l3 ⟨2 * t.val, by omega⟩) (l3 ⟨2 * t.val + 1, by omega⟩)
  FloatOps.addf (l4 0) (l4 1)

/-- What worker `w`'s output rows hold once its task is done: row `320·w + r`, lane `j`, is the tree sum over `k < 32` of
    the table's row named by entry `32·r + k` of the worker's index row, at lane `j`. -/
def SumRel [FloatOps F] (w : Fin 32) (Tc : S10000x128.Idx → F .f32) (I : S32x10496.Idx → BitVec 32) (O : S10240x128.Idx → F .f32) : Prop :=
  ∀ (r : Fin 320) (j : Fin 128),
    O (ValueIdx.ix2 ⟨320 * w.val + r.val, by omega⟩ j)
      = tree32 fun k : Fin 32 => Tc (ValueIdx.ix2 ⟨(I (ValueIdx.ix2 w ⟨32 * r.val + k.val, by omega⟩)).toNat % 10000, Nat.mod_lt _ (by decide)⟩ j)

/-- What travels from call to call for tile `(c, i)`'s barrier cell at round `q`: the tile's position at the origin of the
    round, and that the cell has reached it. -/
def barCarry (q : ℕ) (d : Dev nD) (c : Fin τ.nSC) (i : Fin τ.nSub) : sProp 𝕄 :=
  iprop(atPos EB (bcell d c i) q ∅ 0 ∗ reached EB (bcell d c i) q)

section Call

variable (ℓt ℓi ℓo : Loc nD τ sig) (ℓs : Fin τ.nSC → Loc nD τ sig)
variable (StS : (c : Fin τ.nSC) → Fin 16 → Finset (Idx (ℓs c))) (RowsO : Fin 32 → Finset (Idx ℓo))
variable (wrT : (S10000x128.Idx → F .f32) → Buf (Elt F) ℓt) (wrI : (S32x10496.Idx → BitVec 32) → Buf (Elt F) ℓi)
variable (rdO : Buf (Elt F) ℓo → S10240x128.Idx → F .f32) (wrS : (c : Fin τ.nSC) → (S10000x128.Idx → F .f32) → Buf (Elt F) (ℓs c))
variable (Tq : S10000x128.Idx → F .f32) (Iq : S32x10496.Idx → BitVec 32)

/-- A task's operands: read tokens of the table and of the index table (its own row's entries name rows of the table),
    its output rows, the rows of the shared buffer it stages, its own barrier position, and every sibling's "reached". -/
def goPay (q : ℕ) (d : Dev nD) (c : Fin 2) (i : Fin 16) : sProp 𝕄 :=
  iprop((ℓt ↦{tileShare c i} wrT Tq) ∗ (ℓi ↦{tileShare c i} wrI Iq) ∗ ⌜IdxOk (wid c i) Iq⌝
    ∗ (∃ fo, ℓo ↦[RowsO (wid c i)]{fullShare} fo) ∗ (∃ fs, ℓs (c.castLE (by decide)) ↦[StS (c.castLE (by decide)) i]{fullShare} fs)
    ∗ atPos EB (bcell d (c.castLE (by decide)) (i.castLE (by decide))) q ∅ 0
    ∗ bigSep Finset.univ fun j : Fin 16 => reached EB (bcell d (c.castLE (by decide)) (j.castLE (by decide))) q)

/-- A task's results: the tokens back, the output rows at the neighbour sums, a read token of the whole shared buffer
    (now the table's copy) and the kept remainder of the rows it staged, and its barrier cell moved on one round. -/
def tdPay [FloatOps F] (q : ℕ) (d : Dev nD) (c : Fin 2) (i : Fin 16) : sProp 𝕄 :=
  iprop((ℓt ↦{tileShare c i} wrT Tq) ∗ (ℓi ↦{tileShare c i} wrI Iq)
    ∗ (∃ fo, (ℓo ↦[RowsO (wid c i)]{fullShare} fo) ∗ ⌜SumRel (wid c i) Tq Iq (rdO fo)⌝)
    ∗ (ℓs (c.castLE (by decide)) ↦{shareTok fullShare 16 i} wrS (c.castLE (by decide)) Tq)
    ∗ (ℓs (c.castLE (by decide)) ↦[StS (c.castLE (by decide)) i]{shareDrop fullShare 16} wrS (c.castLE (by decide)) Tq)
    ∗ barCarry (q + 1) d (c.castLE (by decide)) (i.castLE (by decide)))

/-- A SparseCore's operands for the call: its read tokens of the table and of the index table (whose every entry names
    a row), its sixteen workers' output rows, and its tiles' barrier cells at round `q`. -/
def stPay (q : ℕ) (d : Dev nD) (c : Fin 2) : sProp 𝕄 :=
  iprop((ℓt ↦{coreShare c} wrT Tq) ∗ (ℓi ↦{coreShare c} wrI Iq) ∗ ⌜∀ w, IdxOk w Iq⌝
    ∗ (bigSep Finset.univ fun i : Fin 16 => iprop(∃ fo, ℓo ↦[RowsO (wid c i)]{fullShare} fo))
    ∗ bigSep Finset.univ fun i : Fin 16 => barCarry q d (c.castLE (by decide)) (i.castLE (by decide)))

/-- Its results: the tokens back and, for each of its workers, the output rows at the neighbour sums; the barrier
    cells one round on. -/
def dnPay [FloatOps F] (q : ℕ) (d : Dev nD) (c : Fin 2) : sProp 𝕄 :=
  iprop((ℓt ↦{coreShare c} wrT Tq) ∗ (ℓi ↦{coreShare c} wrI Iq)
    ∗ (bigSep Finset.univ fun i : Fin 16 => iprop(∃ fo, (ℓo ↦[RowsO (wid c i)]{fullShare} fo) ∗ ⌜SumRel (wid c i) Tq Iq (rdO fo)⌝))
    ∗ bigSep Finset.univ fun i : Fin 16 => barCarry (q + 1) d (c.castLE (by decide)) (i.castLE (by decide)))

/-- What tile `n`'s arrival hands tile `j` of SparseCore `c` across the barrier: a read token of the rows of the shared
    buffer it staged, which hold the table's rows. -/
def barPay (c : Fin τ.nSC) (j : Fin τ.nSub) (n : ℕ) : sProp 𝕄 :=
  if h : n < 16 then iprop(ℓs c ↦[StS c ⟨n, h⟩]{shareTok fullShare 16 (Fin.cast nSub_τ j)} wrS c Tq)
  else iprop(emp)

end Call

/-! ## The three calls' locations -/

/-- SparseCore `c`'s shared buffer of call `q`. -/
abbrev shRef0 (c : Fin τ.nSC) : DevRef τ sig := ⟨.shared, ⟨0, by decide⟩, c⟩
abbrev shRef1 (c : Fin τ.nSC) : DevRef τ sig := ⟨.shared, ⟨1, by decide⟩, c⟩
abbrev shRef2 (c : Fin τ.nSC) : DevRef τ sig := ⟨.shared, ⟨2, by decide⟩, c⟩

abbrev idxLoc (d : Dev nD) : Loc nD τ sig := (SparseCore.T d).loc main_v7
abbrev tab0 (d : Dev nD) : Loc nD τ sig := (SparseCore.T d).loc main_arg0
abbrev tab1 (d : Dev nD) : Loc nD τ sig := (SparseCore.T d).loc main_v11_0
abbrev tab2 (d : Dev nD) : Loc nD τ sig := (SparseCore.T d).loc main_v14_0
abbrev out0 (d : Dev nD) : Loc nD τ sig := (SparseCore.T d).loc main_v8
abbrev out1 (d : Dev nD) : Loc nD τ sig := (SparseCore.T d).loc main_v12
abbrev out2 (d : Dev nD) : Loc nD τ sig := (SparseCore.T d).loc main_v15
abbrev sh0 (d : Dev nD) (c : Fin τ.nSC) : Loc nD τ sig := (d, shRef0 c)
abbrev sh1 (d : Dev nD) (c : Fin τ.nSC) : Loc nD τ sig := (d, shRef1 c)
abbrev sh2 (d : Dev nD) (c : Fin τ.nSC) : Loc nD τ sig := (d, shRef2 c)

/-- The contents of an f32[10000,128], i32[32,10496], f32[10240,128] buffer ARE functions on its indices. -/
abbrev wrT0 (d : Dev nD) : (S10000x128.Idx → F .f32) → Buf (Elt F) (tab0 d) := fun f => f
abbrev wrT1 (d : Dev nD) : (S10000x128.Idx → F .f32) → Buf (Elt F) (tab1 d) := fun f => f
abbrev wrT2 (d : Dev nD) : (S10000x128.Idx → F .f32) → Buf (Elt F) (tab2 d) := fun f => f
abbrev wrI (d : Dev nD) : (S32x10496.Idx → BitVec 32) → Buf (Elt F) (idxLoc d) := fun f => f
abbrev rdO0 (d : Dev nD) : Buf (Elt F) (out0 d) → S10240x128.Idx → F .f32 := fun f => f
abbrev rdO1 (d : Dev nD) : Buf (Elt F) (out1 d) → S10240x128.Idx → F .f32 := fun f => f
abbrev rdO2 (d : Dev nD) : Buf (Elt F) (out2 d) → S10240x128.Idx → F .f32 := fun f => f
abbrev wrS0 (d : Dev nD) (c : Fin τ.nSC) : (S10000x128.Idx → F .f32) → Buf (Elt F) (sh0 d c) := fun f => f
abbrev wrS1 (d : Dev nD) (c : Fin τ.nSC) : (S10000x128.Idx → F .f32) → Buf (Elt F) (sh1 d c) := fun f => f
abbrev wrS2 (d : Dev nD) (c : Fin τ.nSC) : (S10000x128.Idx → F .f32) → Buf (Elt F) (sh2 d c) := fun f => f

-- The contents the payloads name: call `q`'s table on device `d`, and the index table.
variable (Tb : Fin 3 → Dev nD → S10000x128.Idx → F .f32) (Ib : Dev nD → S32x10496.Idx → BitVec 32)

/-- What the handshakes of call `q` carry. -/
def stQ (q : Fin 3) (d : Dev nD) (c : Fin 2) : sProp 𝕄 :=
  match q with
  | 0 => stPay (tab0 d) (idxLoc d) (out0 d) (fun w => (outRect w).set) (wrT0 d) (wrI d) (Tb 0 d) (Ib d) 0 d c
  | 1 => stPay (tab1 d) (idxLoc d) (out1 d) (fun w => (outRect w).set) (wrT1 d) (wrI d) (Tb 1 d) (Ib d) 1 d c
  | 2 => stPay (tab2 d) (idxLoc d) (out2 d) (fun w => (outRect w).set) (wrT2 d) (wrI d) (Tb 2 d) (Ib d) 2 d c
def dnQ [FloatOps F] (q : Fin 3) (d : Dev nD) (c : Fin 2) : sProp 𝕄 :=
  match q with
  | 0 => dnPay (tab0 d) (idxLoc d) (out0 d) (fun w => (outRect w).set) (wrT0 d) (wrI d) (rdO0 d) (Tb 0 d) (Ib d) 0 d c
  | 1 => dnPay (tab1 d) (idxLoc d) (out1 d) (fun w => (outRect w).set) (wrT1 d) (wrI d) (rdO1 d) (Tb 1 d) (Ib d) 1 d c
  | 2 => dnPay (tab2 d) (idxLoc d) (out2 d) (fun w => (outRect w).set) (wrT2 d) (wrI d) (rdO2 d) (Tb 2 d) (Ib d) 2 d c
def goQ (q : Fin 3) (d : Dev nD) (c : Fin 2) (i : Fin 16) : sProp 𝕄 :=
  match q with
  | 0 => goPay (tab0 d) (idxLoc d) (out0 d) (sh0 d) (fun _ n => (stageRect n).set) (fun w => (outRect w).set) (wrT0 d) (wrI d) (Tb 0 d) (Ib d) 0 d c i
  | 1 => goPay (tab1 d) (idxLoc d) (out1 d) (sh1 d) (fun _ n => (stageRect n).set) (fun w => (outRect w).set) (wrT1 d) (wrI d) (Tb 1 d) (Ib d) 1 d c i
  | 2 => goPay (tab2 d) (idxLoc d) (out2 d) (sh2 d) (fun _ n => (stageRect n).set) (fun w => (outRect w).set) (wrT2 d) (wrI d) (Tb 2 d) (Ib d) 2 d c i
def tdQ [FloatOps F] (q : Fin 3) (d : Dev nD) (c : Fin 2) (i : Fin 16) : sProp 𝕄 :=
  match q with
  | 0 => tdPay (tab0 d) (idxLoc d) (out0 d) (sh0 d) (fun _ n => (stageRect n).set) (fun w => (outRect w).set) (wrT0 d) (wrI d) (rdO0 d) (wrS0 d) (Tb 0 d) (Ib d) 0 d c i
  | 1 => tdPay (tab1 d) (idxLoc d) (out1 d) (sh1 d) (fun _ n => (stageRect n).set) (fun w => (outRect w).set) (wrT1 d) (wrI d) (rdO1 d) (wrS1 d) (Tb 1 d) (Ib d) 1 d c i
  | 2 => tdPay (tab2 d) (idxLoc d) (out2 d) (sh2 d) (fun _ n => (stageRect n).set) (fun w => (outRect w).set) (wrT2 d) (wrI d) (rdO2 d) (wrS2 d) (Tb 2 d) (Ib d) 2 d c i

/-! ## The barrier's schedule and kit -/

/-- Round `r` of a barrier cell belongs to call `r`. -/
def bPay (g : GSem nD τ sig) (r n : ℕ) : sProp 𝕄 :=
  match g with
  | ((d, .scVector c j), _) =>
    match r with
    | 0 => barPay (sh0 d) (fun _ n => (stageRect n).set) (wrS0 d) (Tb 0 d) c j n
    | 1 => barPay (sh1 d) (fun _ n => (stageRect n).set) (wrS1 d) (Tb 1 d) c j n
    | 2 => barPay (sh2 d) (fun _ n => (stageRect n).set) (wrS2 d) (Tb 2 d) c j n
    | _ => iprop(emp)
  | _ => iprop(emp)

/-- The barrier cells' schedule: three rounds on each, of one unit duty per tile of the SparseCore (named by its number). -/
def bRd : Rounds.Schedule (GSem nD τ sig) ℕ 𝕄 where
  duties g r := if isBar g ∧ r < 3 then (Finset.univ : Finset (Fin τ.nSub)).image Fin.val else ∅
  amount _ _ _ := 1
  payload g r n := bPay (F := F) Tb g r n
  amount_pos _ _ _ _ := Nat.one_pos

set_option synthInstance.maxHeartbeats 400000 in
instance bRd_payload_storable (g : GSem nD τ sig) (r n : ℕ) : BI.Storable (upEmb : UEmb _ 𝕄) ((bRd (F := F) Tb).payload g r n) := by
  show BI.Storable upEmb (bPay Tb g r n)
  unfold bPay
  rcases g with ⟨⟨d, _ | c | ⟨c, i⟩⟩, sm⟩ <;> dsimp only <;> (try infer_instance)
  rcases r with _ | _ | _ | r <;> (try dsimp only) <;> (try unfold barPay) <;> (repeat' split) <;> infer_instance

/-- What tile `(c, i)` owes for call `q`: a unit on every tile's barrier cell of its SparseCore. -/
def oxV (q : Fin 3) (d : Dev nD) (c : Fin τ.nSC) : CellTallies nD τ sig (HIx 3) :=
  ∑ j : Fin τ.nSub, tallyAt (bcell d c j) (some q) 1

theorem oxV_none (q : Fin 3) (d : Dev nD) (c : Fin τ.nSC) (g : GSem nD τ sig) : oxV q d c g none = 0 := by
  unfold oxV
  rw [Finset.sum_apply, Finsupp.finset_sum_apply]
  exact Finset.sum_eq_zero fun j _ => by rw [tallyAt_apply]; simp

theorem oxV_apply_pos {q : Fin 3} {d : Dev nD} {c : Fin τ.nSC} {g : GSem nD τ sig} {ι : HIx 3} (h : 0 < oxV q d c g ι) :
    ∃ j : Fin τ.nSub, g = bcell d c j ∧ ι = some q := by
  unfold oxV at h
  rw [Finset.sum_apply, Finsupp.finset_sum_apply] at h
  obtain ⟨j, _, hj⟩ := Finset.exists_ne_zero_of_sum_ne_zero (Nat.pos_iff_ne_zero.mp h)
  rw [tallyAt_apply] at hj
  refine ⟨j, ?_⟩
  by_contra hne
  apply hj
  rw [if_neg]
  rintro ⟨rfl, rfl⟩
  exact hne ⟨rfl, rfl⟩

/-- Tile `(c, i)`'s barrier kit for call `q`: every sibling cell's invariant, its duty token in every sibling's round `q`,
    and the credit for the sixteen units of its own round. -/
def bkit (q : Fin 3) (d : Dev nD) (c : Fin τ.nSC) (i : Fin τ.nSub) : sProp 𝕄 :=
  iprop((∃ κ : GSem nD τ sig → ℕ, bigSep Finset.univ fun j : Fin τ.nSub => cellInv EB (bRd (F := F) Tb) (κ (bcell d c j)) (bcell d c j))
    ∗ (bigSep Finset.univ fun j : Fin τ.nSub => dutyTok EB (bcell d c j) q.val i.val)
    ∗ cred (tallyAt (bcell d c i) (some q) 16))

/-! ## What the handshakes carry -/

/-- What a thread owes for call `q` beyond the handshakes: a tile its sixteen arrivals, the others nothing. -/
def oxOf (q : Fin 3) : Thread nD τ → CellTallies nD τ sig (HIx 3)
  | (d, .scVector c _) => oxV q d c
  | _ => 0
theorem oxOf_T (q : Fin 3) (d : Dev nD) : oxOf q (T d) = 0 := rfl
theorem oxOf_S (q : Fin 3) (d : Dev nD) (c : Fin τ.nSC) : oxOf q (S d c) = 0 := rfl
theorem oxOf_V (q : Fin 3) (d : Dev nD) (c : Fin τ.nSC) (i : Fin τ.nSub) : oxOf q (V d c i) = oxV q d c := rfl

/-- What a thread's proof consumes at call `q`: a tile its barrier kit. -/
def xOf (q : Fin 3) : Thread nD τ → sProp 𝕄
  | (d, .scVector c i) => bkit (F := F) Tb q d c i
  | _ => iprop(emp)

theorem kind_eq : ∀ q : Fin 3, (K (F := F)).kind q = .scVector := fun | 0 => rfl | 1 => rfl | 2 => rfl

variable [FloatOps F]

/-- The three calls' payloads; each tile's proof consumes its barrier kit for the call and owes its sixteen arrivals. -/
def P : (K (F := F)).Pay (nD := nD) (Val := Elt F) (Name := ℕ) (U := UU) where
  st := fun q d c => stQ Tb Ib q d (Fin.cast (nCore_eq q) c)
  dn := fun q d c => dnQ Tb Ib q d (Fin.cast (nCore_eq q) c)
  go := fun q d c i => goQ Tb Ib q d (Fin.cast (nCore_eq q) c) (Fin.cast (nSub_eq q) i)
  td := fun q d c i => tdQ Tb Ib q d (Fin.cast (nCore_eq q) c) (Fin.cast (nSub_eq q) i)
  x := xOf Tb
  ox := oxOf
  ox_band := by
    intro q thr g ι h
    rcases thr with ⟨d, _ | c | ⟨c, i⟩⟩
    · rw [show oxOf q (d, Proc.tc) = 0 from rfl] at h; exact absurd h (lt_irrefl 0)
    · rw [show oxOf q (d, Proc.scScalar c) = 0 from rfl] at h; exact absurd h (lt_irrefl 0)
    · rw [show oxOf q (d, Proc.scVector c i) = oxV q d c from rfl] at h
      obtain ⟨j, rfl, rfl⟩ := oxV_apply_pos h
      rw [(K (F := F)).lev_V_reg d c j (show (sc_bar0 : Sem sig) ≠ (K (F := F)).go from sc_bar0_ne_go)]; exact ⟨le_rfl, by omega⟩
  ox_tc := fun q d => oxOf_T q d
  ox_sc := fun q d c h => absurd (oxOf_S q d c) h
  ox_vc := fun q d c i _ => ⟨kind_eq q, (nCore_eq q).symm ▸ c.isLt, (nSub_eq q).symm ▸ i.isLt⟩

set_option synthInstance.maxHeartbeats 400000 in
instance stQ_storable (q : Fin 3) (d : Dev nD) (c : Fin 2) : BI.Storable (upEmb : UEmb _ 𝕄) (stQ (F := F) Tb Ib q d c) := by
  match q with
  | 0 => unfold stQ stPay barCarry; infer_instance
  | 1 => unfold stQ stPay barCarry; infer_instance
  | 2 => unfold stQ stPay barCarry; infer_instance
set_option synthInstance.maxHeartbeats 400000 in
instance dnQ_storable (q : Fin 3) (d : Dev nD) (c : Fin 2) : BI.Storable (upEmb : UEmb _ 𝕄) (dnQ (F := F) Tb Ib q d c) := by
  match q with
  | 0 => unfold dnQ dnPay barCarry; infer_instance
  | 1 => unfold dnQ dnPay barCarry; infer_instance
  | 2 => unfold dnQ dnPay barCarry; infer_instance
set_option synthInstance.maxHeartbeats 400000 in
instance goQ_storable (q : Fin 3) (d : Dev nD) (c : Fin 2) (i : Fin 16) : BI.Storable (upEmb : UEmb _ 𝕄) (goQ (F := F) Tb Ib q d c i) := by
  match q with
  | 0 => unfold goQ goPay; infer_instance
  | 1 => unfold goQ goPay; infer_instance
  | 2 => unfold goQ goPay; infer_instance
set_option synthInstance.maxHeartbeats 400000 in
instance tdQ_storable (q : Fin 3) (d : Dev nD) (c : Fin 2) (i : Fin 16) : BI.Storable (upEmb : UEmb _ 𝕄) (tdQ (F := F) Tb Ib q d c i) := by
  match q with
  | 0 => unfold tdQ tdPay barCarry; infer_instance
  | 1 => unfold tdQ tdPay barCarry; infer_instance
  | 2 => unfold tdQ tdPay barCarry; infer_instance

instance P_storable : (P (F := F) Tb Ib).IsStorable where
  st q d c := stQ_storable Tb Ib q d _
  dn q d c := dnQ_storable Tb Ib q d _
  go q d c i := goQ_storable Tb Ib q d _ _
  td q d c i := tdQ_storable Tb Ib q d _ _

end Cert.Proof.KI

end
-- ==== Proof.ScFin.lean ====
/-
  The final reading of the launch: a full-share points-to of every argument array and of the result array, held
  together with the state interpretation, pins each array's physical contents to the contents the points-to names.
-/
import proofs.«205366_g3083786518796_cont_9to1_852_38_alg».proof.Proof.ScPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

/-- Whole TensorCore buffers `B` of device `d`, each held at the full share at contents `W`, agree with the physical
    memory under the state interpretation. -/
theorem tcBufs_agree (d : Dev nD) (s' : Phys nD τ sig (Elt F)) (W : (ℓ : Loc nD τ sig) → Buf (Elt F) ℓ) (B : Finset (Ref sig .tc)) :
    iprop((bigSep B fun b => ((SparseCore.T d).loc b ↦{fullShare} W ((SparseCore.T d).loc b) : sProp 𝕄)) ∗ SI s')
      ⊢ (⌜∀ b ∈ B, s'.mem.mem ((SparseCore.T d).loc b) = W ((SparseCore.T d).loc b)⌝ : sProp 𝕄) := by
  induction B using Finset.induction_on with
  | empty => iintro -; ipureintro; simp
  | insert b B hb ih =>
    rw [bigSep_insert hb]
    refine (show iprop((((SparseCore.T d).loc b ↦{fullShare} W ((SparseCore.T d).loc b))
        ∗ bigSep B fun b => ((SparseCore.T d).loc b ↦{fullShare} W ((SparseCore.T d).loc b) : sProp 𝕄)) ∗ SI s') ⊢ _ from ?_)
    iintro ⟨⟨Hb, HB⟩, HSI⟩
    ihave %h := (SI_pointsTo_agree (st := s') (ℓ := (SparseCore.T d).loc b) (I := Finset.univ) (q := fullShare)
        (f := W ((SparseCore.T d).loc b))) $$ [HSI Hb]
    · isplitl [HSI] <;> iassumption
    ihave %hB := ih $$ [HSI HB]
    · isplitl [HB] <;> iassumption
    ipureintro
    intro b' hb'
    rcases Finset.mem_insert.mp hb' with rfl | hb'
    · exact funext fun i => h i (Finset.mem_univ i)
    · exact hB b' hb'

/-- The program's argument arrays. -/
def argRefs : Finset (Ref sig .tc) :=
  {main_arg0, main_arg1, main_arg2, main_arg3, main_arg4, main_arg5, main_arg6, main_arg7, main_arg8, main_arg9, main_arg10, main_arg11, main_arg12, main_arg13}

/-- The contents of the f32[10000,128] result buffer ARE a function on its indices. -/
abbrev resLoc (d : Dev nD) : Loc nD τ sig := (SparseCore.T d).loc main_v17
abbrev wrRes (d : Dev nD) : (S10000x128.Idx → F .f32) → Buf (Elt F) (resLoc d) := fun f => f

variable (m : (ℓ : Loc nD τ sig) → Buf (Elt F) ℓ) (Res : Dev nD → S10000x128.Idx → F .f32)

/-- What @main ends holding: every argument array whole at the launch contents, and the result array whole at `Res`. -/
def FIN (d : Dev nD) : sProp 𝕄 :=
  iprop((bigSep argRefs fun b => ((SparseCore.T d).loc b ↦{fullShare} m ((SparseCore.T d).loc b) : sProp 𝕄))
    ∗ ((SparseCore.T d).loc main_v17 ↦{fullShare} wrRes d (Res d)))

/-- What the final state then says of device `d`. -/
def fq (d : Dev nD) (s' : Phys nD τ sig (Elt F)) : Prop :=
  (∀ b ∈ argRefs, s'.mem.mem ((SparseCore.T d).loc b) = m ((SparseCore.T d).loc b))
    ∧ s'.mem.mem ((SparseCore.T d).loc main_v17) = wrRes d (Res d)

theorem hfin (d : Dev nD) (s' : Phys nD τ sig (Elt F)) : iprop(FIN m Res d ∗ SI s') ⊢ (⌜fq m Res d s'⌝ : sProp 𝕄) := by
  unfold FIN fq
  iintro ⟨⟨HA, HR⟩, HSI⟩
  ihave %hr := (SI_pointsTo_agree (st := s') (ℓ := (SparseCore.T d).loc main_v17) (I := Finset.univ) (q := fullShare)
      (f := wrRes d (Res d))) $$ [HSI HR]
  · isplitl [HSI] <;> iassumption
  ihave %ha := (tcBufs_agree d s' m argRefs) $$ [HA HSI]
  · isplitl [HA] <;> iassumption
  ipureintro
  exact ⟨ha, funext fun i => hr i (Finset.mem_univ i)⟩

/-- The run's post: on every device the result array at `Res` and the fourteen argument arrays unchanged. -/
def QC : PUnit × MemSt nD τ sig (Elt F) → Prop := fun r => ∀ c : Dev nD,
  r.2.mem ((SparseCore.T c).loc main_v17) = wrRes c (Res c)
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_arg4) = m ((SparseCore.T c).loc main_arg4)
    ∧ r.2.mem ((SparseCore.T c).loc main_arg5) = m ((SparseCore.T c).loc main_arg5)
    ∧ r.2.mem ((SparseCore.T c).loc main_arg6) = m ((SparseCore.T c).loc main_arg6)
    ∧ r.2.mem ((SparseCore.T c).loc main_arg7) = m ((SparseCore.T c).loc main_arg7)
    ∧ r.2.mem ((SparseCore.T c).loc main_arg8) = m ((SparseCore.T c).loc main_arg8)
    ∧ r.2.mem ((SparseCore.T c).loc main_arg9) = m ((SparseCore.T c).loc main_arg9)
    ∧ r.2.mem ((SparseCore.T c).loc main_arg10) = m ((SparseCore.T c).loc main_arg10)
    ∧ r.2.mem ((SparseCore.T c).loc main_arg11) = m ((SparseCore.T c).loc main_arg11)
    ∧ r.2.mem ((SparseCore.T c).loc main_arg12) = m ((SparseCore.T c).loc main_arg12)
    ∧ r.2.mem ((SparseCore.T c).loc main_arg13) = m ((SparseCore.T c).loc main_arg13)

theorem hQ : ∀ s' : Phys nD τ sig (Elt F), (∀ d, fq m Res d s') → QC m Res (⟨⟩, s'.mem) := fun s' h c =>
  ⟨(h c).2, (h c).1 main_arg0 (by decide),
    (h c).1 main_arg1 (by decide),
    (h c).1 main_arg2 (by decide),
    (h c).1 main_arg3 (by decide),
    (h c).1 main_arg4 (by decide),
    (h c).1 main_arg5 (by decide),
    (h c).1 main_arg6 (by decide),
    (h c).1 main_arg7 (by decide),
    (h c).1 main_arg8 (by decide),
    (h c).1 main_arg9 (by decide),
    (h c).1 main_arg10 (by decide),
    (h c).1 main_arg11 (by decide),
    (h c).1 main_arg12 (by decide),
    (h c).1 main_arg13 (by decide)⟩

end Cert.Proof.KI

end
-- ==== Proof.GSum.lean ====
/-
  The neighbour-sum array as ONE function of the table and the index table.

  Output row n = 320·w + r belongs to worker w = n / 320 and is its r = n % 320-th row; its lane j is the tree sum
  over k < 32 of the table rows named by entries 32·r + k of the worker's index row, at lane j.  Stating the array
  as a function of n makes "every worker's rows are its tree sums" the same as "the output is this array".
-/
import proofs.«205366_g3083786518796_cont_9to1_852_38_alg».proof.Proof.ScPay

noncomputable section

namespace Cert.Proof.KI

open Cert.KernelIdeal
open Idealize.ShloMosaic

variable {F : FTy → Type} [FloatOps F]

/-- The padded output as a function of the table and the index table. -/
def gsumF (Tc : S10000x128.Idx → F .f32) (I : S32x10496.Idx → BitVec 32) : S10240x128.Idx → F .f32 := fun i =>
  tree32 fun k : Fin 32 =>
    Tc (ValueIdx.ix2
      ⟨(I (ValueIdx.ix2 ⟨(i 0).val / 320, by have := ValueIdx.idx2_lt0 i; omega⟩
          ⟨32 * ((i 0).val % 320) + k.val, by omega⟩)).toNat % 10000, Nat.mod_lt _ (by decide)⟩ (i 1))

/-- Every worker's rows of that array are its tree sums. -/
theorem gsumF_rel (Tc : S10000x128.Idx → F .f32) (I : S32x10496.Idx → BitVec 32) (w : Fin 32) :
    SumRel w Tc I (gsumF Tc I) := by
  intro r j
  have e1 : (320 * w.val + r.val) / 320 = w.val := by omega
  have e2 : (320 * w.val + r.val) % 320 = r.val := by omega
  show (tree32 fun k : Fin 32 =>
    Tc (ValueIdx.ix2
      ⟨(I (ValueIdx.ix2 ⟨(320 * w.val + r.val) / 320, by omega⟩
          ⟨32 * ((320 * w.val + r.val) % 320) + k.val, by omega⟩)).toNat % 10000, Nat.mod_lt _ (by decide)⟩ j)) = _
  simp only [e1, e2, Fin.eta]

/-- An output whose every worker's rows are its tree sums is that array. -/
theorem eq_gsumF (Tc : S10000x128.Idx → F .f32) (I : S32x10496.Idx → BitVec 32) (O : S10240x128.Idx → F .f32)
    (h : ∀ w : Fin 32, SumRel w Tc I O) : O = gsumF Tc I := by
  funext i
  have hi := ValueIdx.idx2_lt0 i
  have hw : (i 0).val / 320 < 32 := by omega
  have hr : (i 0).val % 320 < 320 := Nat.mod_lt _ (by decide)
  have hh := h ⟨(i 0).val / 320, hw⟩ ⟨(i 0).val % 320, hr⟩ (i 1)
  have e : (⟨320 * ((i 0).val / 320) + (i 0).val % 320, by omega⟩ : Fin 10240) = i 0 := Fin.ext (Nat.div_add_mod _ 320)
  have hO : O i = O (ValueIdx.ix2 ⟨320 * ((i 0).val / 320) + (i 0).val % 320, by omega⟩ (i 1)) := by
    rw [e]; exact congrArg O (ValueIdx.eq_ix2 i)
  exact hO.trans (hh.trans rfl)

end Cert.Proof.KI

end
-- ==== Proof.TcZBody.lean ====
import proofs.«205366_g3083786518796_cont_9to1_852_38_alg».proof.Proof.Gen.KernelIdeal.Launch
import proofs.«205366_g3083786518796_cont_9to1_852_38_alg».proof.Proof.Gen.KernelIdeal.Skeleton
import proofs.«205366_g3083786518796_cont_9to1_852_38_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# The first TensorCore region: z = x · (Wg + Ws)ᵀ, block by block

The grid has five points; point `t` reads rows `2000 t … 2000 t + 1999` of `x`, the two whole weight matrices,
and writes the same rows of the result.  Everything is stated at a parameter `V`: the TensorCore's buffer
contents when the region is entered.
-/

section Region0

variable (V : (c : Dev nD) → (b : Ref sig .tc) → Buf (Elt F) ((c : Thread nD τ).loc b))

/-- Window `w`'s block at point `t`, read off its array as the region finds it. -/
def iblk0 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: a window that
    is not fetched at a point has not moved (the two weight windows are fetched once, at the first point). -/
theorem before0_0_of {c : Dev nD} (dat : Dat τ (Elt F) Ix Name U Lvl cfg1 c) (hA : dat.A 0 = V c (Pipeline.arrRef spec1 0))
    (hafter : ∀ t, dat.after 0 t = iblk0 V c 0 t) (t : Fin cfg1.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Ix Name U Lvl cfg1 c) (hA : dat.A 1 = V c (Pipeline.arrRef spec1 1))
    (hafter : ∀ t, dat.after 1 t = iblk0 V c 1 t) (t : Fin cfg1.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Ix Name U Lvl cfg1 c) (hA : dat.A 2 = V c (Pipeline.arrRef spec1 2))
    (hafter : ∀ t, dat.after 2 t = iblk0 V c 2 t) (t : Fin cfg1.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 2000×128 staging block, and the whole 128×128 weight block, as rectangles. -/
abbrev rB : Rect S2000x128 := Rect.unit (s := S2000x128) ![0, 0] S2000x128.size inb_S2000x128_S2000x128_0_0
abbrev rW : Rect S128x128 := Rect.unit (s := S128x128) ![0, 0] S128x128.size inb_S128x128_S128x128_0_0

/-- What the body leaves in the output block: one store of the matmul payload of the three loaded blocks. -/
def out0 (x : Vec F S2000x128 .f32) (wg ws : Vec F S128x128 .f32) : Vec F S2000x128 .f32 :=
  View.canon [⟨rB, k1_pay1 (View.ld wg rW) (View.ld ws rW) (View.ld x rB)⟩]

/-- The one store covers the block. -/
theorem cover0 (p0 : Vec F S2000x128 .f32) (y : S2000x128.Idx) :
    ∃ pc ∈ ([⟨rB, p0⟩] : List (View.Piece (Elt F) S2000x128 .f32)), y ∈ pc.1.set :=
  View.cover_of_tiled [⟨rB, p0⟩] S2000x128.size (by rfl) y

set_option maxHeartbeats 400000 in
/-- The body on whole staging memrefs: the three inputs are read and left as they were, the output block ends at
    `out0` of them. -/
theorem sound_kernel0 (𝒱₀ : Variants) (c : Dev nD) (E : Set Name) (i : grid1.Coords)
    (arg1 : Memref sig .tc .vmem S2000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S2000x128 .f32) (harg4 : arg4.IsWhole)
    (x : Vec F S2000x128 .f32) (wg ws : Vec F S128x128 .f32) (K : PUnit → sProp 𝕄) :
    iprop(owns (c : Thread nD τ) arg1 fullShare x ∗ owns (c : Thread nD τ) arg2 fullShare wg ∗ owns (c : Thread nD τ) arg3 fullShare ws
        ∗ (∃ d, owns (c : Thread nD τ) arg4 fullShare d)
        ∗ (iprop(owns (c : Thread nD τ) arg1 fullShare x ∗ owns (c : Thread nD τ) arg2 fullShare wg ∗ owns (c : Thread nD τ) arg3 fullShare ws
            ∗ owns (c : Thread nD τ) arg4 fullShare (out0 x wg ws)) -∗ K ⟨⟩))
      ⊢ wp frame (wpE (defs₀ (F := F)) 𝒱₀ c none) E (cc1__tc_z_body i arg1 harg1 arg2 harg2 arg3 harg3 arg4 harg4) K := by
  simp only [cc1__tc_z_body_eq_skeleton]; unfold cc1__tc_z_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

variable (Name U Lvl) in
/-- The proof data of the first region on core `c`: the arrays as the region finds them; after the body at point
    `t` each input's buffer at its block and the output's at `out0` of the three input blocks; the invariant is the
    scoped buffers no window stages, untouched; the core owes the same tallies `O.1` throughout, its recorded waits (the pipeline's own apart) within `O.2`; full shares. -/
def dat0 (O : CellTallies nD τ sig Ix × Set (SemLoc sig × Ix)) (c : Dev nD) : Dat τ (Elt F) Ix Name U Lvl cfg1 c where
  A w := V c (Pipeline.arrRef spec1 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.scopedRest spec1 c
  q _ := fullShare
  owed _ := O.1
  recorded _ := O.2

theorem A_eq0 (O : CellTallies nD τ sig Ix × Set (SemLoc sig × Ix)) (c : Dev nD) (w : Fin cfg1.W) :
    (dat0 Name U Lvl V O c).A w = V c (Pipeline.arrRef spec1 w) := by
  dsimp only [dat0]

theorem after0_0 (O : CellTallies nD τ sig Ix × Set (SemLoc sig × Ix)) (c : Dev nD) (t : Fin cfg1.N) :
    (dat0 Name U Lvl V O c).after 0 t = iblk0 V c 0 t := by dsimp only [dat0]
theorem after0_1 (O : CellTallies nD τ sig Ix × Set (SemLoc sig × Ix)) (c : Dev nD) (t : Fin cfg1.N) :
    (dat0 Name U Lvl V O c).after 1 t = iblk0 V c 1 t := by dsimp only [dat0]
theorem after0_2 (O : CellTallies nD τ sig Ix × Set (SemLoc sig × Ix)) (c : Dev nD) (t : Fin cfg1.N) :
    (dat0 Name U Lvl V O c).after 2 t = iblk0 V c 2 t := by dsimp only [dat0]
theorem after0_3 (O : CellTallies nD τ sig Ix × Set (SemLoc sig × Ix)) (c : Dev nD) (t : Fin cfg1.N) :
    (dat0 Name U Lvl V O c).after 3 t = out0 (iblk0 V c 0 t) (iblk0 V c 1 t) (iblk0 V c 2 t) := by dsimp only [dat0]

theorem before0_0 (O : CellTallies nD τ sig Ix × Set (SemLoc sig × Ix)) (c : Dev nD) (t : Fin cfg1.N) (d) :
    (dat0 Name U Lvl V O c).before 0 t d = iblk0 V c 0 t :=
  before0_0_of V _ (A_eq0 V O c 0) (after0_0 V O c) t d
theorem before0_1 (O : CellTallies nD τ sig Ix × Set (SemLoc sig × Ix)) (c : Dev nD) (t : Fin cfg1.N) (d) :
    (dat0 Name U Lvl V O c).before 1 t d = iblk0 V c 1 t :=
  before0_1_of V _ (A_eq0 V O c 1) (after0_1 V O c) t d
theorem before0_2 (O : CellTallies nD τ sig Ix × Set (SemLoc sig × Ix)) (c : Dev nD) (t : Fin cfg1.N) (d) :
    (dat0 Name U Lvl V O c).before 2 t d = iblk0 V c 2 t :=
  before0_2_of V _ (A_eq0 V O c 2) (after0_2 V O c) t d

/-- What the body is called with at point `t`, the windows one by one, -/
def bodyPre0 (O : CellTallies nD τ sig Ix × Set (SemLoc sig × Ix)) (ι : Ix) (c : Dev nD) (t : Fin cfg1.N) : sProp 𝕄 :=
  iprop((dat0 Name U Lvl V O c).Φ t.castSucc ∗ (dat0 Name U Lvl V O c).owesAt ι t.castSucc
    ∗ (∃ d, owns (c : Thread nD τ) (st1_0 t) fullShare ((dat0 Name U Lvl V O c).before 0 t d))
    ∗ (∃ d, owns (c : Thread nD τ) (st1_1 t) fullShare ((dat0 Name U Lvl V O c).before 1 t d))
    ∗ (∃ d, owns (c : Thread nD τ) (st1_2 t) fullShare ((dat0 Name U Lvl V O c).before 2 t d))
    ∗ (∃ d, owns (c : Thread nD τ) (st1_3 t) fullShare ((dat0 Name U Lvl V O c).before 3 t d)))

/-- and what it returns. -/
def bodyPost0 (O : CellTallies nD τ sig Ix × Set (SemLoc sig × Ix)) (ι : Ix) (c : Dev nD) (t : Fin cfg1.N) : sProp 𝕄 :=
  iprop((dat0 Name U Lvl V O c).Φ t.succ ∗ (dat0 Name U Lvl V O c).owesAt ι t.succ
    ∗ owns (c : Thread nD τ) (st1_0 t) fullShare ((dat0 Name U Lvl V O c).after 0 t)
    ∗ owns (c : Thread nD τ) (st1_1 t) fullShare ((dat0 Name U Lvl V O c).after 1 t)
    ∗ owns (c : Thread nD τ) (st1_2 t) fullShare ((dat0 Name U Lvl V O c).after 2 t)
    ∗ owns (c : Thread nD τ) (st1_3 t) fullShare ((dat0 Name U Lvl V O c).after 3 t))

/-- The body at any point: the inputs' buffers hold their blocks, so `sound_kernel0` applies; the invariant and the
    core's debts pass through unread. -/
theorem sound_body0 (𝒱₀ : Variants) (O : CellTallies nD τ sig Ix × Set (SemLoc sig × Ix)) (ι : Ix) (c : Dev nD) (t : Fin cfg1.N) :
    bodyPre0 (Name := Name) (U := U) (Lvl := Lvl) V O ι c t
      ⊢ wp frame (wpE (defs₀ (F := F)) 𝒱₀ c none) Set.univ (bodyAt1 t) (fun _ => bodyPost0 V O ι c t) := by
  unfold bodyPre0 bodyPost0 bodyAt1
  simp only [before0_0, before0_1, before0_2]
  rw [show (dat0 Name U Lvl V O c).Φ t.succ = (dat0 Name U Lvl V O c).Φ t.castSucc from rfl,
    show (dat0 Name U Lvl V O c).owesAt ι t.succ = (dat0 Name U Lvl V O c).owesAt ι t.castSucc from rfl,
    after0_0, after0_1, after0_2, after0_3]
  iintro ⟨HΦ, Ho, ⟨%d0, H0⟩, ⟨%d1, H1⟩, ⟨%d2, H2⟩, ⟨%d3, H3⟩⟩
  iapply (sound_kernel0 𝒱₀ c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (𝒱₀ : Variants) (O : CellTallies nD τ sig Ix × Set (SemLoc sig × Ix)) (ι : Ix) (c : Dev nD) :
    BodyObligation (dat0 Name U Lvl V O c) (defs₀ (F := F)) 𝒱₀ ι Set.univ := fun t => by
  rw [bigSep_W1, bigSep_W1]
  exact sound_body0 V 𝒱₀ O ι c t

end Region0

end Cert.KernelIdeal.Regions

end
-- ==== Proof.TcZValue.lean ====
import proofs.«205366_g3083786518796_cont_9to1_852_38_alg».proof.Proof.Gen.KernelIdeal.Launch
import proofs.«205366_g3083786518796_cont_9to1_852_38_alg».proof.Proof.Gen.KernelIdeal.Skeleton
import proofs.«205366_g3083786518796_cont_9to1_852_38_alg».proof.Proof.Gen.KernelIdeal.Points
import proofs.«205366_g3083786518796_cont_9to1_852_38_alg».proof.Proof.TcZBody
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# The first region's result as one function of its arguments

`Z0 x wg ws` is, at row `n`, the matmul payload of rows `2000 ⌊n / 2000⌋ …` of `x` and of the two weight matrices,
read at row `n mod 2000`: the five write-backs piece it together.
-/

theorem hz2 : (![0, 0] : Fin 2 → Nat) = fun _ => 0 := funext fun a => by fin_cases a <;> rfl

/-- Rows `2000 b … 2000 b + 1999` of a 10000-row array, as a block. -/
def rowsOf {α : Type} (x : S10000x128.Idx → α) (b : Fin 5) : S2000x128.Idx → α :=
  fun y => x (ix2 ⟨b.val * 2000 + (y 0).val, by have := idx2_lt0 y; have := b.isLt; omega⟩ (y 1))

/-- The first region's result, whole. -/
def Z0 (x : Vec F S10000x128 .f32) (wg ws : Vec F S128x128 .f32) : Vec F S10000x128 .f32 := fun i =>
  k1_pay1 wg ws (rowsOf x ⟨(i 0).val / 2000, by have := idx2_lt0 i; omega⟩) (ix2 ⟨(i 0).val % 2000, Nat.mod_lt _ (by decide)⟩ (i 1))

/-- At row `2000 b + r` it is the payload of block `b` at row `r`. -/
theorem Z0_at (x : Vec F S10000x128 .f32) (wg ws : Vec F S128x128 .f32) (b : Fin 5) (j : S2000x128.Idx)
    (h : b.val * 2000 + (j 0).val < 10000) :
    Z0 x wg ws (ix2 ⟨b.val * 2000 + (j 0).val, h⟩ (j 1)) = k1_pay1 wg ws (rowsOf x b) j := by
  unfold Z0
  have hj := idx2_lt0 j
  have hB : (⟨(b.val * 2000 + (j 0).val) / 2000, by omega⟩ : Fin 5) = b := Fin.ext (by show (b.val * 2000 + (j 0).val) / 2000 = b.val; omega)
  have hJ : (ix2 (⟨(b.val * 2000 + (j 0).val) % 2000, Nat.mod_lt _ (by decide)⟩ : Fin 2000) (j 1) : S2000x128.Idx) = j := by
    funext a; match a with
    | ⟨0, _⟩ => exact Fin.ext (by show (b.val * 2000 + (j 0).val) % 2000 = (j 0).val; omega)
    | ⟨1, _⟩ => rfl
  exact congrArg₂ (fun B J => k1_pay1 wg ws (rowsOf x B) J) hB hJ

/-- The grid point as a block number. -/
def pt1 (t : Fin cfg1.N) : Fin 5 := ⟨t.val, lt_of_lt_of_eq t.isLt N_1⟩

/-- The printed index maps over the grid: `x`'s and the result's block is the point's, the weights' is the whole. -/
theorem idx_facts0 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Value0

variable (V : (c : Dev nD) → (b : Ref sig .tc) → Buf (Elt F) ((c : Thread nD τ).loc b))

/-- `x`'s block at point `t` is its rows `2000 t …`; each weight matrix's block is the matrix. -/
theorem iblk0_0 (c : Dev nD) (t : Fin cfg1.N) : iblk0 V c 0 t = rowsOf (V c main_arg0) (pt1 t) := by
  funext y
  obtain ⟨e0, e1, -⟩ := idx_facts0 t
  have hy0 := idx2_lt0 y
  show V c main_arg0 (((cfg1.win 0).blk t).view.emb y) = V c main_arg0 (ix2 ⟨(pt1 t).val * 2000 + (y 0).val, _⟩ (y 1))
  refine congrArg (V c main_arg0) ?_
  funext a; apply Fin.ext
  match a with
  | ⟨0, _⟩ => show win1_0.index t (0 : Fin 2) * 2000 + 1 * (y 0).val = t.val * 2000 + (y 0).val; rw [e0]; omega
  | ⟨1, _⟩ => show win1_0.index t (1 : Fin 2) * 128 + 1 * (y 1).val = (y 1).val; rw [e1]; omega
theorem iblk0_1 (c : Dev nD) (t : Fin cfg1.N) : iblk0 V c 1 t = V c main_arg2 := by
  funext y
  obtain ⟨-, -, e0, e1, -⟩ := idx_facts0 t
  show V c main_arg2 (((cfg1.win 1).blk t).view.emb y) = V c main_arg2 y
  refine congrArg (V c main_arg2) ?_
  funext a; apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega
theorem iblk0_2 (c : Dev nD) (t : Fin cfg1.N) : iblk0 V c 2 t = V c main_arg4 := by
  funext y
  obtain ⟨-, -, -, -, e0, e1, -⟩ := idx_facts0 t
  show V c main_arg4 (((cfg1.win 2).blk t).view.emb y) = V c main_arg4 y
  refine congrArg (V c main_arg4) ?_
  funext a; apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- An element of the result's block at point `t` sits at row `2000 t + r`. -/
theorem emb0_3 (t : Fin cfg1.N) (j : S2000x128.Idx) (h : (pt1 t).val * 2000 + (j 0).val < 10000) :
    ((cfg1.win 3).blk t).view.emb j = ix2 ⟨(pt1 t).val * 2000 + (j 0).val, h⟩ (j 1) := by
  obtain ⟨-, -, -, -, -, -, e0, e1⟩ := idx_facts0 t
  funext a; apply Fin.ext
  match a with
  | ⟨0, _⟩ => show win1_3.index t (0 : Fin 2) * 2000 + 1 * (j 0).val = t.val * 2000 + (j 0).val; rw [e0]; omega
  | ⟨1, _⟩ => show win1_3.index t (1 : Fin 2) * 128 + 1 * (j 1).val = (j 1).val; rw [e1]; omega

/-- WHAT POINT `t` WRITES BACK is block `t` of `Z0` of the three arrays as the region finds them. -/
theorem flushed0_eq (O : CellTallies nD τ sig Ix × Set (SemLoc sig × Ix)) (c : Dev nD) (t : Fin cfg1.N) :
    (dat0 Name U Lvl V O c).flushed 3 t
      = ((cfg1.win 3).blk t).view.read (Elt F) (Z0 (V c main_arg0) (V c main_arg2) (V c main_arg4)) := by
  show (cfg1.win 3).cut (grid1.coords t) ((dat0 Name U Lvl V O c).after 3 t) = _
  rw [after0_3]
  unfold out0
  rw [View.canon_unit_zero hz2]
  simp only [View.ld_unit_zero (S := S2000x128) hz2, View.ld_unit_zero (S := S128x128) hz2]
  rw [iblk0_0, iblk0_1, iblk0_2]
  funext j
  have hj := idx2_lt0 j
  have ht : (pt1 t).val * 2000 + (j 0).val < 10000 := by have := (pt1 t).isLt; omega
  show k1_pay1 (V c main_arg2) (V c main_arg4) (rowsOf (V c main_arg0) (pt1 t)) j
    = Z0 (V c main_arg0) (V c main_arg2) (V c main_arg4) (((cfg1.win 3).blk t).view.emb j)
  rw [emb0_3 t j ht]
  exact (Z0_at _ _ _ (pt1 t) j ht).symm

/-- An index of the result is in point `t`'s block iff each coordinate is in the block's range on its axis. -/
theorem mem_blk0 (t : Fin cfg1.N) (i : S10000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v9).slice (win1_3.rect t)).set ↔ _
  rw [View.set_slice_whole, Rect.mem_set_unit]
  exact Iff.rfl

/-- Every row is in the block of the point `⌊row / 2000⌋`. -/
theorem cover0_arr (i : S10000x128.Idx) :
    ∃ t : Fin cfg1.N, (cfg1.win 3).flush t = true ∧ i ∈ ((cfg1.win 3).blk t).view.set := by
  have hi0 := idx2_lt0 i
  have hi1 := idx2_lt1 i
  let t : Fin cfg1.N := ⟨(i 0).val / 2000, by rw [show cfg1.N = 5 from N_1]; omega⟩
  obtain ⟨-, -, -, -, -, -, e0, e1⟩ := idx_facts0 t
  refine ⟨t, flush1_3 t, ?_⟩
  rw [mem_blk0]
  intro a
  match a with
  | ⟨0, _⟩ => show win1_3.index t (0 : Fin 2) * 2000 ≤ (i 0).val ∧ (i 0).val < win1_3.index t (0 : Fin 2) * 2000 + 2000; rw [e0]; show (i 0).val / 2000 * 2000 ≤ (i 0).val ∧ (i 0).val < (i 0).val / 2000 * 2000 + 2000; omega
  | ⟨1, _⟩ => show win1_3.index t (1 : Fin 2) * 128 ≤ (i 1).val ∧ (i 1).val < win1_3.index t (1 : Fin 2) * 128 + 128; rw [e1]; omega

/-- THE RESULT ARRAY after the region: `Z0` of the three input arrays as the region finds them. -/
theorem final0 (O : CellTallies nD τ sig Ix × Set (SemLoc sig × Ix)) (c : Dev nD) :
    (dat0 Name U Lvl V O c).arrAt 3 cfg1.N = Z0 (V c main_arg0) (V c main_arg2) (V c main_arg4) :=
  (dat0 Name U Lvl V O c).arrAt_eq_of_cover 3 _ (fun t _ => flushed0_eq V O c t) cover0_arr

/-- The input arrays are as the region found them. -/
theorem kept0 (O : CellTallies nD τ sig Ix × Set (SemLoc sig × Ix)) (c : Dev nD) (w : Fin cfg1.W) (hw : (cfg1.win w).isOut = false) (n : Nat) :
    (dat0 Name U Lvl V O c).arrAt w n = V c (Pipeline.arrRef spec1 w) :=
  ((dat0 Name U Lvl V O c).arrAt_in w hw n).trans (A_eq0 V O c w)

end Value0

end Cert.KernelIdeal.Regions

end
-- ==== Proof.TcBlocks.lean ====
import proofs.«205366_g3083786518796_cont_9to1_852_38_alg».proof.Proof.Gen.KernelIdeal.Launch
import proofs.«205366_g3083786518796_cont_9to1_852_38_alg».proof.Proof.Gen.KernelIdeal.Skeleton
import proofs.«205366_g3083786518796_cont_9to1_852_38_alg».proof.Proof.Gen.KernelIdeal.Points
import proofs.«205366_g3083786518796_cont_9to1_852_38_alg».proof.Proof.TcZValue
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# A 10000-row array given in five blocks of 2000 rows
-/

/-- Rows `2000 b … 2000 b + 1999` of a 10240-row array, as a block (the five blocks use the first 10000 rows). -/
def rowsOfG {α : Type} (g : S10240x128.Idx → α) (b : Fin 5) : S2000x128.Idx → α :=
  fun y => g (ix2 ⟨b.val * 2000 + (y 0).val, by have := idx2_lt0 y; have := b.isLt; omega⟩ (y 1))

/-- The 10000-row array whose rows `2000 b …` are the block `P b`. -/
def blockwise {β : Type} (P : Fin 5 → S2000x128.Idx → β) : S10000x128.Idx → β := fun i =>
  P ⟨(i 0).val / 2000, by have := idx2_lt0 i; omega⟩ (ix2 ⟨(i 0).val % 2000, Nat.mod_lt _ (by decide)⟩ (i 1))

/-- At row `2000 b + r` it is block `b` at row `r`. -/
theorem blockwise_at {β : Type} (P : Fin 5 → S2000x128.Idx → β) (b : Fin 5) (j : S2000x128.Idx)
    (h : b.val * 2000 + (j 0).val < 10000) :
    blockwise P (ix2 ⟨b.val * 2000 + (j 0).val, h⟩ (j 1)) = P b j := by
  unfold blockwise
  have hj := idx2_lt0 j
  have hB : (⟨(b.val * 2000 + (j 0).val) / 2000, by omega⟩ : Fin 5) = b := Fin.ext (by show (b.val * 2000 + (j 0).val) / 2000 = b.val; omega)
  have hJ : (ix2 (⟨(b.val * 2000 + (j 0).val) % 2000, Nat.mod_lt _ (by decide)⟩ : Fin 2000) (j 1) : S2000x128.Idx) = j := by
    funext a; match a with
    | ⟨0, _⟩ => exact Fin.ext (by show (b.val * 2000 + (j 0).val) % 2000 = (j 0).val; omega)
    | ⟨1, _⟩ => rfl
  exact congrArg₂ (fun B J => P B J) hB hJ

/-- At any row `n`: block `⌊n / 2000⌋` at row `n mod 2000`. -/
theorem blockwise_apply {β : Type} (P : Fin 5 → S2000x128.Idx → β) (n : Fin 10000) (o : Fin 128) :
    blockwise P (ix2 n o) = P ⟨n.val / 2000, by omega⟩ (ix2 ⟨n.val % 2000, Nat.mod_lt _ (by decide)⟩ o) := rfl

end Cert.KernelIdeal.Regions

end
-- ==== Proof.TcPayIdeal.lean ====
import proofs.«205366_g3083786518796_cont_9to1_852_38_alg».proof.Proof.Gen.KernelIdeal.Skeleton
import proofs.«205366_g3083786518796_cont_9to1_852_38_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

/-!
# The TensorCore bodies' arithmetic over the extended reals, entry by entry

Each body's stored value is one pure term of its loaded blocks.  Read at row `r` and column `o`:
the first body gives `Σ_j x[r,j] · (Wg[o,j] + Ws[o,j])`; the other bodies give the ELU of
`z[r,o] + Σ_j g[r,j] · (Wl[o,j] · (1/32)) + b[o]`, and the fused ones also the next layer's first product of that.
The constant word 0x3D000000 is exactly 1/32 and 0x3F800000 is 1.
-/

namespace Cert.KernelIdeal.Regions

open Idealize.ShloMosaic Idealize.ShloMosaic.ValueIdx
open Cert.KernelIdeal.Gen
open scoped BigOperators

/-- The two literal words of the bodies. -/
theorem inv32_word : Ideal.ofBits .f32 0x3D000000#32 = Cert.Spec.inv32 := by
  unfold Cert.Spec.inv32; simp [Ideal.ofBits, Ideal.ieee, -EReal.coe_mul]; norm_num
theorem one_word : Ideal.ofBits .f32 0x3F800000#32 = 1 := by
  simp [Ideal.ofBits, Ideal.ieee, -EReal.coe_mul]; norm_num

/-- The bodies' one product shape: [2000,128] × [128,128] contracting the second axis of each. -/
abbrev DD : DotDims S2000x128 S128x128 S2000x128 := dot_S2000x128_S128x128_S2000x128_1_1_0_0_n_n

theorem dd_lhs0 (i : S2000x128.Idx) (q : DD.contr.Idx) : (DD.lhsIdx i q 0).val = (i 0).val := by
  unfold DotDims.lhsIdx
  rw [dif_neg (show ¬(0 : Fin S2000x128.rank) ∈ DD.lhsBatch by decide), dif_pos (show (0 : Fin S2000x128.rank) ∈ DD.lhsNonContracting by decide)]
  rfl
theorem dd_lhs1 (i : S2000x128.Idx) (q : DD.contr.Idx) : (DD.lhsIdx i q 1).val = (q ⟨0, by decide⟩).val :=
  DD.lhsIdx_val_of_single rfl i q
theorem dd_rhs0 (i : S2000x128.Idx) (q : DD.contr.Idx) : (DD.rhsIdx i q 0).val = (i 1).val := by
  unfold DotDims.rhsIdx
  rw [dif_neg (show ¬(0 : Fin S128x128.rank) ∈ DD.rhsBatch by decide), dif_pos (show (0 : Fin S128x128.rank) ∈ DD.rhsNonContracting by decide)]
  rfl
theorem dd_rhs1 (i : S2000x128.Idx) (q : DD.contr.Idx) : (DD.rhsIdx i q 1).val = (q ⟨0, by decide⟩).val :=
  DD.rhsIdx_val_of_single rfl i q

/-- The block product into a zero accumulator, at row `n` and column `o`: the sum over the shared axis. -/
theorem matmul_ideal (l : FVec Ideal S2000x128 .f32) (r : FVec Ideal S128x128 .f32) (n : Fin 2000) (o : Fin 128) :
    matmul DD none l r (constant (F := Ideal) S2000x128 .f32 0x00000000#32) (ix2 n o) = ∑ k : Fin 128, l (ix2 n k) * r (ix2 o k) := by
  refine (Ideal.matmul_constant_zero_apply DD none l r (ix2 n o)).trans ?_
  rw [← Equiv.sum_comp (contrEquiv1 DD 128 rfl rfl).symm]
  refine Finset.sum_congr rfl fun k _ => ?_
  have hk := contrEquiv1_symm_val DD 128 rfl rfl k
  have el : DD.lhsIdx (ix2 n o) ((contrEquiv1 DD 128 rfl rfl).symm k) = ix2 n k := funext fun a => Fin.ext (by
    match a with
    | ⟨0, _⟩ => exact dd_lhs0 _ _
    | ⟨1, _⟩ => exact (dd_lhs1 _ _).trans hk)
  have er : DD.rhsIdx (ix2 n o) ((contrEquiv1 DD 128 rfl rfl).symm k) = ix2 o k := funext fun a => Fin.ext (by
    match a with
    | ⟨0, _⟩ => exact dd_rhs0 _ _
    | ⟨1, _⟩ => exact (dd_rhs1 _ _).trans hk)
  rw [el, er]

/-- The first body's payload, entry by entry. -/
theorem k1_pay1_ideal (wg ws : FVec Ideal S128x128 .f32) (x : FVec Ideal S2000x128 .f32) (r : Fin 2000) (o : Fin 128) :
    k1_pay1 (F := Ideal) wg ws x (ix2 r o) = ∑ j : Fin 128, x (ix2 r j) * (wg (ix2 o j) + ws (ix2 o j)) := by
  unfold k1_pay1
  exact matmul_ideal x (addf wg ws) r o

/-- The select of the bodies on one number: the kernel's ELU. -/
theorem elu_word (a : EReal) :
    Scalar.select (Ideal.cmp .ogt a (Ideal.ofBits .f32 0x00000000#32)) a (Ideal.exp a - Ideal.ofBits .f32 0x3F800000#32) = Cert.Spec.eluKer a := by
  unfold Cert.Spec.eluKer Scalar.select Ideal.cmp
  rw [Ideal.ofBits_zero_f32, one_word]
  by_cases h : (0 : EReal) < a <;> simp [h]

/-- The pre-activation and ELU of the later bodies, entry by entry (stated once for a payload of that text). -/
theorem elu_pay_ideal (z g : FVec Ideal S2000x128 .f32) (wl : FVec Ideal S128x128 .f32) (b : FVec Ideal S1x128 .f32)
    (hz : S2000x128.ShapeCasts S2000x128) (hb : S1x128.ShapeCasts S1x128) (hbb : S1x128.Broadcasts S2000x128) (r : Fin 2000) (o : Fin 128) :
    (select (cmpf .ogt
        (addf (addf (shapeCast S2000x128 z hz) (matmul DD none (shapeCast S2000x128 g hz) (mulf wl (broadcast S128x128 (Scalar.ofBits (F := Ideal) .f32 0x3D000000#32))) (constant (F := Ideal) S2000x128 .f32 0x00000000#32)))
          (broadcastTo S2000x128 (shapeCast S1x128 b hb) hbb))
        (broadcast S2000x128 (Scalar.ofBits (F := Ideal) .f32 0x00000000#32)))
      (addf (addf (shapeCast S2000x128 z hz) (matmul DD none (shapeCast S2000x128 g hz) (mulf wl (broadcast S128x128 (Scalar.ofBits (F := Ideal) .f32 0x3D000000#32))) (constant (F := Ideal) S2000x128 .f32 0x00000000#32)))
          (broadcastTo S2000x128 (shapeCast S1x128 b hb) hbb))
      (subf (exp (addf (addf (shapeCast S2000x128 z hz) (matmul DD none (shapeCast S2000x128 g hz) (mulf wl (broadcast S128x128 (Scalar.ofBits (F := Ideal) .f32 0x3D000000#32))) (constant (F := Ideal) S2000x128 .f32 0x00000000#32)))
          (broadcastTo S2000x128 (shapeCast S1x128 b hb) hbb)))
        (broadcast S2000x128 (Scalar.ofBits (F := Ideal) .f32 0x3F800000#32))) : FVec Ideal S2000x128 .f32) (ix2 r o)
      = Cert.Spec.eluKer ((z (ix2 r o) + ∑ j : Fin 128, g (ix2 r j) * (wl (ix2 o j) * Cert.Spec.inv32)) + b (ix2 (0 : Fin 1) o)) := by
  refine (elu_word _).trans (congrArg Cert.Spec.eluKer ?_)
  refine congrArg₂ (· + ·) (congrArg₂ (· + ·) ?_ ?_) ?_
  · exact congrFun (shapeCast_self z hz) _
  · refine (matmul_ideal _ _ r o).trans (Finset.sum_congr rfl fun j _ => ?_)
    exact congrArg₂ (· * ·) (congrFun (shapeCast_self g hz) _) (congrArg (wl (ix2 o j) * ·) inv32_word)
  · exact (broadcastTo_1b_ab_apply _ hbb r o).trans (congrFun (shapeCast_self b hb) _)

theorem k2_pay1_ideal (z g : FVec Ideal S2000x128 .f32) (wl : FVec Ideal S128x128 .f32) (b : FVec Ideal S1x128 .f32) (r : Fin 2000) (o : Fin 128) :
    k2_pay1 (F := Ideal) z g wl b (ix2 r o)
      = Cert.Spec.eluKer ((z (ix2 r o) + ∑ j : Fin 128, g (ix2 r j) * (wl (ix2 o j) * Cert.Spec.inv32)) + b (ix2 (0 : Fin 1) o)) := by
  unfold k2_pay1
  exact elu_pay_ideal z g wl b _ _ _ r o
theorem k4_pay1_ideal (z g : FVec Ideal S2000x128 .f32) (wl : FVec Ideal S128x128 .f32) (b : FVec Ideal S1x128 .f32) (r : Fin 2000) (o : Fin 128) :
    k4_pay1 (F := Ideal) z g wl b (ix2 r o)
      = Cert.Spec.eluKer ((z (ix2 r o) + ∑ j : Fin 128, g (ix2 r j) * (wl (ix2 o j) * Cert.Spec.inv32)) + b (ix2 (0 : Fin 1) o)) := by
  unfold k4_pay1
  exact elu_pay_ideal z g wl b _ _ _ r o
theorem k6_pay1_ideal (z g : FVec Ideal S2000x128 .f32) (wl : FVec Ideal S128x128 .f32) (b : FVec Ideal S1x128 .f32) (r : Fin 2000) (o : Fin 128) :
    k6_pay1 (F := Ideal) z g wl b (ix2 r o)
      = Cert.Spec.eluKer ((z (ix2 r o) + ∑ j : Fin 128, g (ix2 r j) * (wl (ix2 o j) * Cert.Spec.inv32)) + b (ix2 (0 : Fin 1) o)) := by
  unfold k6_pay1
  exact elu_pay_ideal z g wl b _ _ _ r o

/-- The fused bodies' second payload: the next layer's first product of the first payload. -/
theorem k2_pay2_ideal (z g : FVec Ideal S2000x128 .f32) (wl : FVec Ideal S128x128 .f32) (b : FVec Ideal S1x128 .f32)
    (wg ws : FVec Ideal S128x128 .f32) (r : Fin 2000) (o : Fin 128) :
    k2_pay2 (F := Ideal) z g wl b wg ws (ix2 r o) = ∑ j : Fin 128, k2_pay1 (F := Ideal) z g wl b (ix2 r j) * (wg (ix2 o j) + ws (ix2 o j)) := by
  unfold k2_pay2
  exact matmul_ideal (k2_pay1 z g wl b) (addf wg ws) r o
theorem k4_pay2_ideal (z g : FVec Ideal S2000x128 .f32) (wl : FVec Ideal S128x128 .f32) (b : FVec Ideal S1x128 .f32)
    (wg ws : FVec Ideal S128x128 .f32) (r : Fin 2000) (o : Fin 128) :
    k4_pay2 (F := Ideal) z g wl b wg ws (ix2 r o) = ∑ j : Fin 128, k4_pay1 (F := Ideal) z g wl b (ix2 r j) * (wg (ix2 o j) + ws (ix2 o j)) := by
  unfold k4_pay2
  exact matmul_ideal (k4_pay1 z g wl b) (addf wg ws) r o

end Cert.KernelIdeal.Regions

end
-- ==== Proof.TcFused1Body.lean ====
import proofs.«205366_g3083786518796_cont_9to1_852_38_alg».proof.Proof.Gen.KernelIdeal.Launch
import proofs.«205366_g3083786518796_cont_9to1_852_38_alg».proof.Proof.Gen.KernelIdeal.Skeleton
import proofs.«205366_g3083786518796_cont_9to1_852_38_alg».proof.Proof.Gen.KernelIdeal.Points
import proofs.«205366_g3083786518796_cont_9to1_852_38_alg».proof.Proof.TcZBody
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# The fused TensorCore region 1: a = z + g · (Wl / 32)ᵀ + b,  h = a if a > 0 else exp a − 1,  zn = h · (Wg' + Ws')ᵀ

Point `t` of the five reads rows `2000 t … 2000 t + 1999` of `z` and of the gathered sums `g` (an array of 10240
rows, of which the five blocks use the first 10000: no block reaches past its end), the whole weight matrices and
the bias row, and writes the same rows of `h` and of `zn`.  Stated at a parameter `V`: the TensorCore's buffer
contents when the region is entered.
-/

section Region1

variable (V : (c : Dev nD) → (b : Ref sig .tc) → Buf (Elt F) ((c : Thread nD τ).loc b))

/-- Window `w`'s block at point `t`, read off its array as the region finds it. -/
def iblk1 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- No block of the gathered sums' window is cut: all five lie inside the 10240 rows. -/
theorem clip_none1 : ∀ (t : Fin cfg2.N) (a : Fin 2), (cfg2.win 1).clip (cfg2.grid.coords t) a = none :=
  (by decide +kernel : ∀ (t : Fin grid2.N) (a : Fin 2), win2_1.clip (grid2.coords t) a = none)

/-- The gathered sums' block at point `t` as a full staging block (the filler is never seen: nothing is cut). -/
def gfill1 (c : Dev nD) (t : Fin cfg2.N) : S2000x128.Idx → Elt F .f32 :=
  win2_1.fill (grid2.coords t) (fun _ => Scalar.ofBits .f32 0#32) (iblk1 V c 1 t)

theorem gfill1_refill (c : Dev nD) (t : Fin cfg2.N) :
    win2_1.fill (grid2.coords t) (fun _ => Scalar.ofBits .f32 0#32) (win2_1.cut (grid2.coords t) (gfill1 V c t)) = gfill1 V c t := by
  unfold gfill1; rw [Window.cut_fill]

/-- An uncut input window's current staging buffer holds its block at every point, fetched there or not. -/
theorem before1_0_of {c : Dev nD} (dat : Dat τ (Elt F) Ix Name U Lvl cfg2 c) (hA : dat.A 0 = V c (Pipeline.arrRef spec2 0))
    (hafter : ∀ t, dat.after 0 t = iblk1 V c 0 t) (t : Fin cfg2.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Ix Name U Lvl cfg2 c) (hA : dat.A 2 = V c (Pipeline.arrRef spec2 2))
    (hafter : ∀ t, dat.after 2 t = iblk1 V c 2 t) (t : Fin cfg2.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Ix Name U Lvl cfg2 c) (hA : dat.A 3 = V c (Pipeline.arrRef spec2 3))
    (hafter : ∀ t, dat.after 3 t = iblk1 V c 3 t) (t : Fin cfg2.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Ix Name U Lvl cfg2 c) (hA : dat.A 4 = V c (Pipeline.arrRef spec2 4))
    (hafter : ∀ t, dat.after 4 t = iblk1 V c 4 t) (t : Fin cfg2.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Ix Name U Lvl cfg2 c) (hA : dat.A 5 = V c (Pipeline.arrRef spec2 5))
    (hafter : ∀ t, dat.after 5 t = iblk1 V c 5 t) (t : Fin cfg2.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The bias row as a rectangle. -/
abbrev rb1 : Rect S1x128 := Rect.unit (s := S1x128) ![0, 0] S1x128.size inb_S1x128_S1x128_0_0

/-- What the body leaves in `h`'s block and in `zn`'s: one store each, of the two payloads of the loaded blocks. -/
def outH1 (z g : Vec F S2000x128 .f32) (wl : Vec F S128x128 .f32) (b : Vec F S1x128 .f32) : Vec F S2000x128 .f32 :=
  View.canon [⟨rB, k2_pay1 (View.ld z rB) (View.ld g rB) (View.ld wl rW) (View.ld b rb1)⟩]
def outZ1 (z g : Vec F S2000x128 .f32) (wl : Vec F S128x128 .f32) (b : Vec F S1x128 .f32) (wg ws : Vec F S128x128 .f32) : Vec F S2000x128 .f32 :=
  View.canon [⟨rB, k2_pay2 (View.ld z rB) (View.ld g rB) (View.ld wl rW) (View.ld b rb1) (View.ld wg rW) (View.ld ws rW)⟩]

set_option maxHeartbeats 400000 in
/-- The body on whole staging memrefs: the six inputs are read and left as they were, the two output blocks end at
    `outH1` and `outZ1` of them. -/
theorem sound_kernel1 (𝒱₀ : Variants) (c : Dev nD) (E : Set Name) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S2000x128 .f32) (harg7 : arg7.IsWhole) (arg8 : Memref sig .tc .vmem S2000x128 .f32) (harg8 : arg8.IsWhole)
    (z g : Vec F S2000x128 .f32) (wl : Vec F S128x128 .f32) (b : Vec F S1x128 .f32) (wg ws : Vec F S128x128 .f32) (K : PUnit → sProp 𝕄) :
    iprop(owns (c : Thread nD τ) arg1 fullShare z ∗ owns (c : Thread nD τ) arg2 fullShare g ∗ owns (c : Thread nD τ) arg3 fullShare wl
        ∗ owns (c : Thread nD τ) arg4 fullShare b ∗ owns (c : Thread nD τ) arg5 fullShare wg ∗ owns (c : Thread nD τ) arg6 fullShare ws
        ∗ (∃ d, owns (c : Thread nD τ) arg7 fullShare d) ∗ (∃ d, owns (c : Thread nD τ) arg8 fullShare d)
        ∗ (iprop(owns (c : Thread nD τ) arg1 fullShare z ∗ owns (c : Thread nD τ) arg2 fullShare g ∗ owns (c : Thread nD τ) arg3 fullShare wl
            ∗ owns (c : Thread nD τ) arg4 fullShare b ∗ owns (c : Thread nD τ) arg5 fullShare wg ∗ owns (c : Thread nD τ) arg6 fullShare ws
            ∗ owns (c : Thread nD τ) arg7 fullShare (outH1 z g wl b) ∗ owns (c : Thread nD τ) arg8 fullShare (outZ1 z g wl b wg ws)) -∗ K ⟨⟩))
      ⊢ wp frame (wpE (defs₀ (F := F)) 𝒱₀ c none) E
          (cc2__tc_out_fused_body i arg1 harg1 arg2 harg2 arg3 harg3 arg4 harg4 arg5 harg5 arg6 harg6 arg7 harg7 arg8 harg8) K := by
  simp only [cc2__tc_out_fused_body_eq_skeleton]; unfold cc2__tc_out_fused_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

variable (Name U Lvl) in
/-- The proof data of this region on core `c`: the arrays as the region finds them; after the body at point `t`
    each input's buffer at its block (the gathered sums' as a full block) and the two outputs' at the payloads of
    the six input blocks; the invariant is the scoped buffers no window stages, untouched; the core owes the same
    tallies `O.1` throughout, its recorded waits (the pipeline's own apart) within `O.2`; full shares. -/
def dat1 (O : CellTallies nD τ sig Ix × Set (SemLoc sig × Ix)) (c : Dev nD) : Dat τ (Elt F) Ix Name U Lvl cfg2 c where
  A w := V c (Pipeline.arrRef spec2 w)
  after w t := match w with
    | ⟨0, _⟩ => iblk1 V c 0 t
    | ⟨1, _⟩ => gfill1 V c t
    | ⟨2, _⟩ => iblk1 V c 2 t
    | ⟨3, _⟩ => iblk1 V c 3 t
    | ⟨4, _⟩ => iblk1 V c 4 t
    | ⟨5, _⟩ => iblk1 V c 5 t
    | ⟨6, _⟩ => outH1 (iblk1 V c 0 t) (gfill1 V c t) (iblk1 V c 2 t) (iblk1 V c 3 t)
    | ⟨7, _⟩ => outZ1 (iblk1 V c 0 t) (gfill1 V c t) (iblk1 V c 2 t) (iblk1 V c 3 t) (iblk1 V c 4 t) (iblk1 V c 5 t)
  Φ _ := Pipeline.scopedRest spec2 c
  q _ := fullShare
  owed _ := O.1
  recorded _ := O.2

theorem A_eq1 (O : CellTallies nD τ sig Ix × Set (SemLoc sig × Ix)) (c : Dev nD) (w : Fin cfg2.W) :
    (dat1 Name U Lvl V O c).A w = V c (Pipeline.arrRef spec2 w) := by
  dsimp only [dat1]

theorem after1_0 (O : CellTallies nD τ sig Ix × Set (SemLoc sig × Ix)) (c : Dev nD) (t : Fin cfg2.N) :
    (dat1 Name U Lvl V O c).after 0 t = iblk1 V c 0 t := by dsimp only [dat1]
theorem after1_2 (O : CellTallies nD τ sig Ix × Set (SemLoc sig × Ix)) (c : Dev nD) (t : Fin cfg2.N) :
    (dat1 Name U Lvl V O c).after 2 t = iblk1 V c 2 t := by dsimp only [dat1]
theorem after1_3 (O : CellTallies nD τ sig Ix × Set (SemLoc sig × Ix)) (c : Dev nD) (t : Fin cfg2.N) :
    (dat1 Name U Lvl V O c).after 3 t = iblk1 V c 3 t := by dsimp only [dat1]
theorem after1_4 (O : CellTallies nD τ sig Ix × Set (SemLoc sig × Ix)) (c : Dev nD) (t : Fin cfg2.N) :
    (dat1 Name U Lvl V O c).after 4 t = iblk1 V c 4 t := by dsimp only [dat1]
theorem after1_5 (O : CellTallies nD τ sig Ix × Set (SemLoc sig × Ix)) (c : Dev nD) (t : Fin cfg2.N) :
    (dat1 Name U Lvl V O c).after 5 t = iblk1 V c 5 t := by dsimp only [dat1]
theorem after1_1 (O : CellTallies nD τ sig Ix × Set (SemLoc sig × Ix)) (c : Dev nD) (t : Fin cfg2.N) :
    (dat1 Name U Lvl V O c).after 1 t = gfill1 V c t := by dsimp only [dat1]
theorem after1_6 (O : CellTallies nD τ sig Ix × Set (SemLoc sig × Ix)) (c : Dev nD) (t : Fin cfg2.N) :
    (dat1 Name U Lvl V O c).after 6 t = outH1 (iblk1 V c 0 t) (gfill1 V c t) (iblk1 V c 2 t) (iblk1 V c 3 t) := by dsimp only [dat1]
theorem after1_7 (O : CellTallies nD τ sig Ix × Set (SemLoc sig × Ix)) (c : Dev nD) (t : Fin cfg2.N) :
    (dat1 Name U Lvl V O c).after 7 t = outZ1 (iblk1 V c 0 t) (gfill1 V c t) (iblk1 V c 2 t) (iblk1 V c 3 t) (iblk1 V c 4 t) (iblk1 V c 5 t) := by dsimp only [dat1]

theorem before1_0 (O : CellTallies nD τ sig Ix × Set (SemLoc sig × Ix)) (c : Dev nD) (t : Fin cfg2.N) (d) :
    (dat1 Name U Lvl V O c).before 0 t d = iblk1 V c 0 t :=
  before1_0_of V _ (A_eq1 V O c 0) (after1_0 V O c) t d
theorem before1_2 (O : CellTallies nD τ sig Ix × Set (SemLoc sig × Ix)) (c : Dev nD) (t : Fin cfg2.N) (d) :
    (dat1 Name U Lvl V O c).before 2 t d = iblk1 V c 2 t :=
  before1_2_of V _ (A_eq1 V O c 2) (after1_2 V O c) t d
theorem before1_3 (O : CellTallies nD τ sig Ix × Set (SemLoc sig × Ix)) (c : Dev nD) (t : Fin cfg2.N) (d) :
    (dat1 Name U Lvl V O c).before 3 t d = iblk1 V c 3 t :=
  before1_3_of V _ (A_eq1 V O c 3) (after1_3 V O c) t d
theorem before1_4 (O : CellTallies nD τ sig Ix × Set (SemLoc sig × Ix)) (c : Dev nD) (t : Fin cfg2.N) (d) :
    (dat1 Name U Lvl V O c).before 4 t d = iblk1 V c 4 t :=
  before1_4_of V _ (A_eq1 V O c 4) (after1_4 V O c) t d
theorem before1_5 (O : CellTallies nD τ sig Ix × Set (SemLoc sig × Ix)) (c : Dev nD) (t : Fin cfg2.N) (d) :
    (dat1 Name U Lvl V O c).before 5 t d = iblk1 V c 5 t :=
  before1_5_of V _ (A_eq1 V O c 5) (after1_5 V O c) t d
/-- The gathered sums' buffer, fetched at every point, holds the full block whatever it held before. -/
theorem before1_1 (O : CellTallies nD τ sig Ix × Set (SemLoc sig × Ix)) (c : Dev nD) (t : Fin cfg2.N) (d) :
    (dat1 Name U Lvl V O c).before 1 t d = gfill1 V c t := by
  unfold Dat.before; rw [if_pos (fetch2_1 t)]
  exact ((dat1 Name U Lvl V O c).fetched_of_clip_none 1 t (clip_none1 t) d (fun _ => Scalar.ofBits .f32 0#32)).trans
    (by unfold Dat.fetched Dat.blockOf gfill1 iblk1; rw [A_eq1]; try rfl)

/-- What the body is called with at point `t`, the windows one by one, -/
def bodyPre1 (O : CellTallies nD τ sig Ix × Set (SemLoc sig × Ix)) (ι : Ix) (c : Dev nD) (t : Fin cfg2.N) : sProp 𝕄 :=
  iprop((dat1 Name U Lvl V O c).Φ t.castSucc ∗ (dat1 Name U Lvl V O c).owesAt ι t.castSucc
    ∗ (∃ d, owns (c : Thread nD τ) (st2_0 t) fullShare ((dat1 Name U Lvl V O c).before 0 t d))
    ∗ (∃ d, owns (c : Thread nD τ) (st2_1 t) fullShare ((dat1 Name U Lvl V O c).before 1 t d))
    ∗ (∃ d, owns (c : Thread nD τ) (st2_2 t) fullShare ((dat1 Name U Lvl V O c).before 2 t d))
    ∗ (∃ d, owns (c : Thread nD τ) (st2_3 t) fullShare ((dat1 Name U Lvl V O c).before 3 t d))
    ∗ (∃ d, owns (c : Thread nD τ) (st2_4 t) fullShare ((dat1 Name U Lvl V O c).before 4 t d))
    ∗ (∃ d, owns (c : Thread nD τ) (st2_5 t) fullShare ((dat1 Name U Lvl V O c).before 5 t d))
    ∗ (∃ d, owns (c : Thread nD τ) (st2_6 t) fullShare ((dat1 Name U Lvl V O c).before 6 t d))
    ∗ (∃ d, owns (c : Thread nD τ) (st2_7 t) fullShare ((dat1 Name U Lvl V O c).before 7 t d)))

/-- and what it returns: every uncut window's buffer at what the body leaves; the gathered sums' on the part its
    transfers move (here all of it). -/
def bodyPost1 (O : CellTallies nD τ sig Ix × Set (SemLoc sig × Ix)) (ι : Ix) (c : Dev nD) (t : Fin cfg2.N) : sProp 𝕄 :=
  iprop((dat1 Name U Lvl V O c).Φ t.succ ∗ (dat1 Name U Lvl V O c).owesAt ι t.succ
    ∗ owns (c : Thread nD τ) (st2_0 t) fullShare ((dat1 Name U Lvl V O c).after 0 t)
    ∗ (∃ d, owns (c : Thread nD τ) (st2_1 t) fullShare ((cfg2.win 1).fill (cfg2.grid.coords t) d ((cfg2.win 1).cut (cfg2.grid.coords t) ((dat1 Name U Lvl V O c).after 1 t))))
    ∗ owns (c : Thread nD τ) (st2_2 t) fullShare ((dat1 Name U Lvl V O c).after 2 t)
    ∗ owns (c : Thread nD τ) (st2_3 t) fullShare ((dat1 Name U Lvl V O c).after 3 t)
    ∗ owns (c : Thread nD τ) (st2_4 t) fullShare ((dat1 Name U Lvl V O c).after 4 t)
    ∗ owns (c : Thread nD τ) (st2_5 t) fullShare ((dat1 Name U Lvl V O c).after 5 t)
    ∗ owns (c : Thread nD τ) (st2_6 t) fullShare ((dat1 Name U Lvl V O c).after 6 t)
    ∗ owns (c : Thread nD τ) (st2_7 t) fullShare ((dat1 Name U Lvl V O c).after 7 t))

/-- The body at any point: the inputs' buffers hold their blocks, so `sound_kernel1` applies; the invariant and the
    core's debts pass through unread. -/
theorem sound_body1 (𝒱₀ : Variants) (O : CellTallies nD τ sig Ix × Set (SemLoc sig × Ix)) (ι : Ix) (c : Dev nD) (t : Fin cfg2.N) :
    bodyPre1 (Name := Name) (U := U) (Lvl := Lvl) V O ι c t
      ⊢ wp frame (wpE (defs₀ (F := F)) 𝒱₀ c none) Set.univ (bodyAt2 t) (fun _ => bodyPost1 V O ι c t) := by
  unfold bodyPre1 bodyPost1 bodyAt2
  simp only [before1_0, before1_1, before1_2, before1_3, before1_4, before1_5]
  rw [show (dat1 Name U Lvl V O c).Φ t.succ = (dat1 Name U Lvl V O c).Φ t.castSucc from rfl,
    show (dat1 Name U Lvl V O c).owesAt ι t.succ = (dat1 Name U Lvl V O c).owesAt ι t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 𝒱₀ c Set.univ _ _ _ _ _ _ _ _ _ _ _ _ _ _ _ _ _
    (iblk1 V c 0 t) (gfill1 V c t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]
  · iexists (fun _ => Scalar.ofBits .f32 0#32)
    rw [show (cfg2.win 1).fill (cfg2.grid.coords t) (fun _ => Scalar.ofBits .f32 0#32) ((cfg2.win 1).cut (cfg2.grid.coords t) (gfill1 V c t)) = gfill1 V c t
      from gfill1_refill V c t]
    iexact H1
  isplitl [H2]; · iexact H2
  isplitl [H3]; · iexact H3
  isplitl [H4]; · iexact H4
  isplitl [H5]; · iexact H5
  isplitl [H6]; · iexact H6
  iexact H7

/-- The library's body obligation (in the form that states a cut window on the part its transfers move), at every point. -/
theorem body_obligation1 (𝒱₀ : Variants) (O : CellTallies nD τ sig Ix × Set (SemLoc sig × Ix)) (ι : Ix) (c : Dev nD) :
    Pipeline.BodyObligationLoose (dat1 Name U Lvl V O c) (defs₀ (F := F)) 𝒱₀ ι Set.univ := fun t => by
  rw [bigSep_W2, bigSep_W2]
  exact sound_body1 V 𝒱₀ O ι c t

end Region1

end Cert.KernelIdeal.Regions

end
-- ==== Proof.TcFused1Value.lean ====
import proofs.«205366_g3083786518796_cont_9to1_852_38_alg».proof.Proof.Gen.KernelIdeal.Launch
import proofs.«205366_g3083786518796_cont_9to1_852_38_alg».proof.Proof.Gen.KernelIdeal.Skeleton
import proofs.«205366_g3083786518796_cont_9to1_852_38_alg».proof.Proof.Gen.KernelIdeal.Points
import proofs.«205366_g3083786518796_cont_9to1_852_38_alg».proof.Proof.TcFused1Body
import proofs.«205366_g3083786518796_cont_9to1_852_38_alg».proof.Proof.TcBlocks
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# Region 1's results as whole-array functions of its arguments

Row `n` of each result is the body's payload of rows `2000 ⌊n / 2000⌋ …` of `z` and of the gathered sums and of the
whole weights and bias, read at row `n mod 2000`: the five write-backs piece each result together.
-/

/-- The activation, whole. -/
def H1 (z : Vec F S10000x128 .f32) (g : Vec F S10240x128 .f32) (wl : Vec F S128x128 .f32) (b : Vec F S1x128 .f32) : Vec F S10000x128 .f32 :=
  blockwise fun B => k2_pay1 (rowsOf z B) (rowsOfG g B) wl b
/-- The next layer's first product, whole. -/
def ZN1 (z : Vec F S10000x128 .f32) (g : Vec F S10240x128 .f32) (wl : Vec F S128x128 .f32) (b : Vec F S1x128 .f32) (wg ws : Vec F S128x128 .f32) : Vec F S10000x128 .f32 :=
  blockwise fun B => k2_pay2 (rowsOf z B) (rowsOfG g B) wl b wg ws

/-- The grid point as a block number. -/
def bpt1 (t : Fin cfg2.N) : Fin 5 := ⟨t.val, lt_of_lt_of_eq t.isLt N_2⟩

/-- The printed index maps over the grid: the row-blocked windows' block is the point's, the others' is the whole. -/
theorem idx_facts1 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

section Value1

variable (V : (c : Dev nD) → (b : Ref sig .tc) → Buf (Elt F) ((c : Thread nD τ).loc b))

theorem iblk1_0 (c : Dev nD) (t : Fin cfg2.N) : iblk1 V c 0 t = rowsOf (V c main_v9) (bpt1 t) := by
  funext y
  obtain ⟨e0, e1, -⟩ := idx_facts1 t
  have hy0 := idx2_lt0 y
  show V c main_v9 (((cfg2.win 0).blk t).view.emb y) = V c main_v9 (ix2 ⟨(bpt1 t).val * 2000 + (y 0).val, _⟩ (y 1))
  refine congrArg (V c main_v9) ?_
  funext a; apply Fin.ext
  match a with
  | ⟨0, _⟩ => show win2_0.index t (0 : Fin 2) * 2000 + 1 * (y 0).val = t.val * 2000 + (y 0).val; rw [e0]; omega
  | ⟨1, _⟩ => show win2_0.index t (1 : Fin 2) * 128 + 1 * (y 1).val = (y 1).val; rw [e1]; omega
theorem iblk1_2 (c : Dev nD) (t : Fin cfg2.N) : iblk1 V c 2 t = V c main_arg3 := by
  funext y
  obtain ⟨-, -, -, -, e0, e1, -⟩ := idx_facts1 t
  show V c main_arg3 (((cfg2.win 2).blk t).view.emb y) = V c main_arg3 y
  refine congrArg (V c main_arg3) ?_
  funext a; apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega
theorem iblk1_4 (c : Dev nD) (t : Fin cfg2.N) : iblk1 V c 4 t = V c main_arg6 := by
  funext y
  obtain ⟨-, -, -, -, -, -, -, -, e0, e1, -⟩ := idx_facts1 t
  show V c main_arg6 (((cfg2.win 4).blk t).view.emb y) = V c main_arg6 y
  refine congrArg (V c main_arg6) ?_
  funext a; apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega
theorem iblk1_5 (c : Dev nD) (t : Fin cfg2.N) : iblk1 V c 5 t = V c main_arg8 := by
  funext y
  obtain ⟨-, -, -, -, -, -, -, -, -, -, e0, e1, -⟩ := idx_facts1 t
  show V c main_arg8 (((cfg2.win 5).blk t).view.emb y) = V c main_arg8 y
  refine congrArg (V c main_arg8) ?_
  funext a; apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega
theorem iblk1_3 (c : Dev nD) (t : Fin cfg2.N) : iblk1 V c 3 t = V c main_v10 := by
  funext y
  obtain ⟨-, -, -, -, -, -, e0, e1, -⟩ := idx_facts1 t
  show V c main_v10 (((cfg2.win 3).blk t).view.emb y) = V c main_v10 y
  refine congrArg (V c main_v10) ?_
  funext a; apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The gathered sums' full block at point `t` is rows `2000 t …` of their array: nothing is cut, so every element
    of the block is one the fetch moved. -/
theorem gfill1_eq (c : Dev nD) (t : Fin cfg2.N) : gfill1 V c t = rowsOfG (V c main_v8) (bpt1 t) := by
  funext y
  obtain ⟨-, -, e0, e1, -⟩ := idx_facts1 t
  have hy0 := idx2_lt0 y
  have hm : win2_1.moved (grid2.coords t) y = true := (win2_1.moved_iff _ y).mpr fun a => by
    have := (y a).isLt; unfold Window.xsize; rw [show win2_1.clip (grid2.coords t) a = none from clip_none1 t a]; exact this
  unfold gfill1 Window.fill
  rw [dif_pos hm]
  show V c main_v8 (((cfg2.win 1).blk t).view.emb _) = V c main_v8 (ix2 ⟨(bpt1 t).val * 2000 + (y 0).val, _⟩ (y 1))
  refine congrArg (V c main_v8) ?_
  funext a; apply Fin.ext
  match a with
  | ⟨0, _⟩ => show win2_1.index t (0 : Fin 2) * 2000 + 1 * (y 0).val = t.val * 2000 + (y 0).val; rw [e0]; omega
  | ⟨1, _⟩ => show win2_1.index t (1 : Fin 2) * 128 + 1 * (y 1).val = (y 1).val; rw [e1]; omega

/-- An element of window 6's block at point `t` sits at row `2000 t + r`. -/
theorem emb1_6 (t : Fin cfg2.N) (j : S2000x128.Idx) (h : (bpt1 t).val * 2000 + (j 0).val < 10000) :
    ((cfg2.win 6).blk t).view.emb j = ix2 ⟨(bpt1 t).val * 2000 + (j 0).val, h⟩ (j 1) := by
  obtain ⟨-, -, -, -, -, -, -, -, -, -, -, -, e0, e1, -⟩ := idx_facts1 t
  funext a; apply Fin.ext
  match a with
  | ⟨0, _⟩ => show win2_6.index t (0 : Fin 2) * 2000 + 1 * (j 0).val = t.val * 2000 + (j 0).val; rw [e0]; omega
  | ⟨1, _⟩ => show win2_6.index t (1 : Fin 2) * 128 + 1 * (j 1).val = (j 1).val; rw [e1]; omega

/-- WHAT POINT `t` WRITES BACK through window 6 is block `t` of `H1` of the arrays as the region finds them. -/
theorem flushed1_6_eq (O : CellTallies nD τ sig Ix × Set (SemLoc sig × Ix)) (c : Dev nD) (t : Fin cfg2.N) :
    (dat1 Name U Lvl V O c).flushed 6 t
      = ((cfg2.win 6).blk t).view.read (Elt F) (H1 (V c main_v9) (V c main_v8) (V c main_arg3) (V c main_v10)) := by
  show (cfg2.win 6).cut (grid2.coords t) ((dat1 Name U Lvl V O c).after 6 t) = _
  rw [after1_6]
  unfold outH1
  rw [View.canon_unit_zero hz2]
  simp only [View.ld_unit_zero (S := S2000x128) hz2, View.ld_unit_zero (S := S128x128) hz2, View.ld_unit_zero (S := S1x128) hz2]
  rw [iblk1_0, gfill1_eq, iblk1_2, iblk1_3]
  funext j
  have hj := idx2_lt0 j
  have ht : (bpt1 t).val * 2000 + (j 0).val < 10000 := by have := (bpt1 t).isLt; omega
  show k2_pay1 (rowsOf (V c main_v9) (bpt1 t)) (rowsOfG (V c main_v8) (bpt1 t)) (V c main_arg3) (V c main_v10) j
    = H1 (V c main_v9) (V c main_v8) (V c main_arg3) (V c main_v10) (((cfg2.win 6).blk t).view.emb j)
  rw [emb1_6 t j ht]
  unfold H1
  exact (blockwise_at (fun B => k2_pay1 (rowsOf (V c main_v9) B) (rowsOfG (V c main_v8) B) (V c main_arg3) (V c main_v10)) (bpt1 t) j ht).symm

theorem mem_blk1_6 (t : Fin cfg2.N) (i : S10000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v11_0).slice (win2_6.rect t)).set ↔ _
  rw [View.set_slice_whole, Rect.mem_set_unit]
  exact Iff.rfl

/-- Every row is in the block of the point `⌊row / 2000⌋`. -/
theorem cover1_6 (i : S10000x128.Idx) :
    ∃ t : Fin cfg2.N, (cfg2.win 6).flush t = true ∧ i ∈ ((cfg2.win 6).blk t).view.set := by
  have hi0 := idx2_lt0 i
  have hi1 := idx2_lt1 i
  let t : Fin cfg2.N := ⟨(i 0).val / 2000, by rw [show cfg2.N = 5 from N_2]; omega⟩
  obtain ⟨-, -, -, -, -, -, -, -, -, -, -, -, e0, e1, -⟩ := idx_facts1 t
  refine ⟨t, flush2_6 t, ?_⟩
  rw [mem_blk1_6]
  intro a
  match a with
  | ⟨0, _⟩ => show win2_6.index t (0 : Fin 2) * 2000 ≤ (i 0).val ∧ (i 0).val < win2_6.index t (0 : Fin 2) * 2000 + 2000; rw [e0]; show (i 0).val / 2000 * 2000 ≤ (i 0).val ∧ (i 0).val < (i 0).val / 2000 * 2000 + 2000; omega
  | ⟨1, _⟩ => show win2_6.index t (1 : Fin 2) * 128 ≤ (i 1).val ∧ (i 1).val < win2_6.index t (1 : Fin 2) * 128 + 128; rw [e1]; omega

/-- THE ARRAY of window 6 after the region: `H1` of the input arrays as the region finds them. -/
theorem final1_6 (O : CellTallies nD τ sig Ix × Set (SemLoc sig × Ix)) (c : Dev nD) :
    (dat1 Name U Lvl V O c).arrAt 6 cfg2.N = H1 (V c main_v9) (V c main_v8) (V c main_arg3) (V c main_v10) :=
  (dat1 Name U Lvl V O c).arrAt_eq_of_cover 6 _ (fun t _ => flushed1_6_eq V O c t) cover1_6

/-- An element of window 7's block at point `t` sits at row `2000 t + r`. -/
theorem emb1_7 (t : Fin cfg2.N) (j : S2000x128.Idx) (h : (bpt1 t).val * 2000 + (j 0).val < 10000) :
    ((cfg2.win 7).blk t).view.emb j = ix2 ⟨(bpt1 t).val * 2000 + (j 0).val, h⟩ (j 1) := by
  obtain ⟨-, -, -, -, -, -, -, -, -, -, -, -, -, -, e0, e1⟩ := idx_facts1 t
  funext a; apply Fin.ext
  match a with
  | ⟨0, _⟩ => show win2_7.index t (0 : Fin 2) * 2000 + 1 * (j 0).val = t.val * 2000 + (j 0).val; rw [e0]; omega
  | ⟨1, _⟩ => show win2_7.index t (1 : Fin 2) * 128 + 1 * (j 1).val = (j 1).val; rw [e1]; omega

/-- WHAT POINT `t` WRITES BACK through window 7 is block `t` of `ZN1` of the arrays as the region finds them. -/
theorem flushed1_7_eq (O : CellTallies nD τ sig Ix × Set (SemLoc sig × Ix)) (c : Dev nD) (t : Fin cfg2.N) :
    (dat1 Name U Lvl V O c).flushed 7 t
      = ((cfg2.win 7).blk t).view.read (Elt F) (ZN1 (V c main_v9) (V c main_v8) (V c main_arg3) (V c main_v10) (V c main_arg6) (V c main_arg8)) := by
  show (cfg2.win 7).cut (grid2.coords t) ((dat1 Name U Lvl V O c).after 7 t) = _
  rw [after1_7]
  unfold outZ1
  rw [View.canon_unit_zero hz2]
  simp only [View.ld_unit_zero (S := S2000x128) hz2, View.ld_unit_zero (S := S128x128) hz2, View.ld_unit_zero (S := S1x128) hz2]
  rw [iblk1_0, gfill1_eq, iblk1_2, iblk1_3, iblk1_4, iblk1_5]
  funext j
  have hj := idx2_lt0 j
  have ht : (bpt1 t).val * 2000 + (j 0).val < 10000 := by have := (bpt1 t).isLt; omega
  show k2_pay2 (rowsOf (V c main_v9) (bpt1 t)) (rowsOfG (V c main_v8) (bpt1 t)) (V c main_arg3) (V c main_v10) (V c main_arg6) (V c main_arg8) j
    = ZN1 (V c main_v9) (V c main_v8) (V c main_arg3) (V c main_v10) (V c main_arg6) (V c main_arg8) (((cfg2.win 7).blk t).view.emb j)
  rw [emb1_7 t j ht]
  unfold ZN1
  exact (blockwise_at (fun B => k2_pay2 (rowsOf (V c main_v9) B) (rowsOfG (V c main_v8) B) (V c main_arg3) (V c main_v10) (V c main_arg6) (V c main_arg8)) (bpt1 t) j ht).symm

theorem mem_blk1_7 (t : Fin cfg2.N) (i : S10000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v11_1).slice (win2_7.rect t)).set ↔ _
  rw [View.set_slice_whole, Rect.mem_set_unit]
  exact Iff.rfl

/-- Every row is in the block of the point `⌊row / 2000⌋`. -/
theorem cover1_7 (i : S10000x128.Idx) :
    ∃ t : Fin cfg2.N, (cfg2.win 7).flush t = true ∧ i ∈ ((cfg2.win 7).blk t).view.set := by
  have hi0 := idx2_lt0 i
  have hi1 := idx2_lt1 i
  let t : Fin cfg2.N := ⟨(i 0).val / 2000, by rw [show cfg2.N = 5 from N_2]; omega⟩
  obtain ⟨-, -, -, -, -, -, -, -, -, -, -, -, -, -, e0, e1⟩ := idx_facts1 t
  refine ⟨t, flush2_7 t, ?_⟩
  rw [mem_blk1_7]
  intro a
  match a with
  | ⟨0, _⟩ => show win2_7.index t (0 : Fin 2) * 2000 ≤ (i 0).val ∧ (i 0).val < win2_7.index t (0 : Fin 2) * 2000 + 2000; rw [e0]; show (i 0).val / 2000 * 2000 ≤ (i 0).val ∧ (i 0).val < (i 0).val / 2000 * 2000 + 2000; omega
  | ⟨1, _⟩ => show win2_7.index t (1 : Fin 2) * 128 ≤ (i 1).val ∧ (i 1).val < win2_7.index t (1 : Fin 2) * 128 + 128; rw [e1]; omega

/-- THE ARRAY of window 7 after the region: `ZN1` of the input arrays as the region finds them. -/
theorem final1_7 (O : CellTallies nD τ sig Ix × Set (SemLoc sig × Ix)) (c : Dev nD) :
    (dat1 Name U Lvl V O c).arrAt 7 cfg2.N = ZN1 (V c main_v9) (V c main_v8) (V c main_arg3) (V c main_v10) (V c main_arg6) (V c main_arg8) :=
  (dat1 Name U Lvl V O c).arrAt_eq_of_cover 7 _ (fun t _ => flushed1_7_eq V O c t) cover1_7

/-- The input arrays are as the region found them. -/
theorem kept1 (O : CellTallies nD τ sig Ix × Set (SemLoc sig × Ix)) (c : Dev nD) (w : Fin cfg2.W) (hw : (cfg2.win w).isOut = false) (n : Nat) :
    (dat1 Name U Lvl V O c).arrAt w n = V c (Pipeline.arrRef spec2 w) :=
  ((dat1 Name U Lvl V O c).arrAt_in w hw n).trans (A_eq1 V O c w)

end Value1

end Cert.KernelIdeal.Regions

end
-- ==== Proof.TcFused2Body.lean ====
import proofs.«205366_g3083786518796_cont_9to1_852_38_alg».proof.Proof.Gen.KernelIdeal.Launch
import proofs.«205366_g3083786518796_cont_9to1_852_38_alg».proof.Proof.Gen.KernelIdeal.Skeleton
import proofs.«205366_g3083786518796_cont_9to1_852_38_alg».proof.Proof.Gen.KernelIdeal.Points
import proofs.«205366_g3083786518796_cont_9to1_852_38_alg».proof.Proof.TcZBody
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# The fused TensorCore region 2: a = z + g · (Wl / 32)ᵀ + b,  h = a if a > 0 else exp a − 1,  zn = h · (Wg' + Ws')ᵀ

Point `t` of the five reads rows `2000 t … 2000 t + 1999` of `z` and of the gathered sums `g` (an array of 10240
rows, of which the five blocks use the first 10000: no block reaches past its end), the whole weight matrices and
the bias row, and writes the same rows of `h` and of `zn`.  Stated at a parameter `V`: the TensorCore's buffer
contents when the region is entered.
-/

section Region2

variable (V : (c : Dev nD) → (b : Ref sig .tc) → Buf (Elt F) ((c : Thread nD τ).loc b))

/-- Window `w`'s block at point `t`, read off its array as the region finds it. -/
def iblk2 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- No block of the gathered sums' window is cut: all five lie inside the 10240 rows. -/
theorem clip_none2 : ∀ (t : Fin cfg4.N) (a : Fin 2), (cfg4.win 1).clip (cfg4.grid.coords t) a = none :=
  (by decide +kernel : ∀ (t : Fin grid4.N) (a : Fin 2), win4_1.clip (grid4.coords t) a = none)

/-- The gathered sums' block at point `t` as a full staging block (the filler is never seen: nothing is cut). -/
def gfill2 (c : Dev nD) (t : Fin cfg4.N) : S2000x128.Idx → Elt F .f32 :=
  win4_1.fill (grid4.coords t) (fun _ => Scalar.ofBits .f32 0#32) (iblk2 V c 1 t)

theorem gfill2_refill (c : Dev nD) (t : Fin cfg4.N) :
    win4_1.fill (grid4.coords t) (fun _ => Scalar.ofBits .f32 0#32) (win4_1.cut (grid4.coords t) (gfill2 V c t)) = gfill2 V c t := by
  unfold gfill2; rw [Window.cut_fill]

/-- An uncut input window's current staging buffer holds its block at every point, fetched there or not. -/
theorem before2_0_of {c : Dev nD} (dat : Dat τ (Elt F) Ix Name U Lvl cfg4 c) (hA : dat.A 0 = V c (Pipeline.arrRef spec4 0))
    (hafter : ∀ t, dat.after 0 t = iblk2 V c 0 t) (t : Fin cfg4.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Ix Name U Lvl cfg4 c) (hA : dat.A 2 = V c (Pipeline.arrRef spec4 2))
    (hafter : ∀ t, dat.after 2 t = iblk2 V c 2 t) (t : Fin cfg4.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Ix Name U Lvl cfg4 c) (hA : dat.A 3 = V c (Pipeline.arrRef spec4 3))
    (hafter : ∀ t, dat.after 3 t = iblk2 V c 3 t) (t : Fin cfg4.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Ix Name U Lvl cfg4 c) (hA : dat.A 4 = V c (Pipeline.arrRef spec4 4))
    (hafter : ∀ t, dat.after 4 t = iblk2 V c 4 t) (t : Fin cfg4.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Ix Name U Lvl cfg4 c) (hA : dat.A 5 = V c (Pipeline.arrRef spec4 5))
    (hafter : ∀ t, dat.after 5 t = iblk2 V c 5 t) (t : Fin cfg4.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The bias row as a rectangle. -/
abbrev rb2 : Rect S1x128 := Rect.unit (s := S1x128) ![0, 0] S1x128.size inb_S1x128_S1x128_0_0

/-- What the body leaves in `h`'s block and in `zn`'s: one store each, of the two payloads of the loaded blocks. -/
def outH2 (z g : Vec F S2000x128 .f32) (wl : Vec F S128x128 .f32) (b : Vec F S1x128 .f32) : Vec F S2000x128 .f32 :=
  View.canon [⟨rB, k4_pay1 (View.ld z rB) (View.ld g rB) (View.ld wl rW) (View.ld b rb2)⟩]
def outZ2 (z g : Vec F S2000x128 .f32) (wl : Vec F S128x128 .f32) (b : Vec F S1x128 .f32) (wg ws : Vec F S128x128 .f32) : Vec F S2000x128 .f32 :=
  View.canon [⟨rB, k4_pay2 (View.ld z rB) (View.ld g rB) (View.ld wl rW) (View.ld b rb2) (View.ld wg rW) (View.ld ws rW)⟩]

set_option maxHeartbeats 400000 in
/-- The body on whole staging memrefs: the six inputs are read and left as they were, the two output blocks end at
    `outH2` and `outZ2` of them. -/
theorem sound_kernel2 (𝒱₀ : Variants) (c : Dev nD) (E : Set Name) (i : grid4.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S2000x128 .f32) (harg7 : arg7.IsWhole) (arg8 : Memref sig .tc .vmem S2000x128 .f32) (harg8 : arg8.IsWhole)
    (z g : Vec F S2000x128 .f32) (wl : Vec F S128x128 .f32) (b : Vec F S1x128 .f32) (wg ws : Vec F S128x128 .f32) (K : PUnit → sProp 𝕄) :
    iprop(owns (c : Thread nD τ) arg1 fullShare z ∗ owns (c : Thread nD τ) arg2 fullShare g ∗ owns (c : Thread nD τ) arg3 fullShare wl
        ∗ owns (c : Thread nD τ) arg4 fullShare b ∗ owns (c : Thread nD τ) arg5 fullShare wg ∗ owns (c : Thread nD τ) arg6 fullShare ws
        ∗ (∃ d, owns (c : Thread nD τ) arg7 fullShare d) ∗ (∃ d, owns (c : Thread nD τ) arg8 fullShare d)
        ∗ (iprop(owns (c : Thread nD τ) arg1 fullShare z ∗ owns (c : Thread nD τ) arg2 fullShare g ∗ owns (c : Thread nD τ) arg3 fullShare wl
            ∗ owns (c : Thread nD τ) arg4 fullShare b ∗ owns (c : Thread nD τ) arg5 fullShare wg ∗ owns (c : Thread nD τ) arg6 fullShare ws
            ∗ owns (c : Thread nD τ) arg7 fullShare (outH2 z g wl b) ∗ owns (c : Thread nD τ) arg8 fullShare (outZ2 z g wl b wg ws)) -∗ K ⟨⟩))
      ⊢ wp frame (wpE (defs₀ (F := F)) 𝒱₀ c none) E
          (cc4__tc_out_fused_body i arg1 harg1 arg2 harg2 arg3 harg3 arg4 harg4 arg5 harg5 arg6 harg6 arg7 harg7 arg8 harg8) K := by
  simp only [cc4__tc_out_fused_body_eq_skeleton]; unfold cc4__tc_out_fused_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

variable (Name U Lvl) in
/-- The proof data of this region on core `c`: the arrays as the region finds them; after the body at point `t`
    each input's buffer at its block (the gathered sums' as a full block) and the two outputs' at the payloads of
    the six input blocks; the invariant is the scoped buffers no window stages, untouched; the core owes the same
    tallies `O.1` throughout, its recorded waits (the pipeline's own apart) within `O.2`; full shares. -/
def dat2 (O : CellTallies nD τ sig Ix × Set (SemLoc sig × Ix)) (c : Dev nD) : Dat τ (Elt F) Ix Name U Lvl cfg4 c where
  A w := V c (Pipeline.arrRef spec4 w)
  after w t := match w with
    | ⟨0, _⟩ => iblk2 V c 0 t
    | ⟨1, _⟩ => gfill2 V c t
    | ⟨2, _⟩ => iblk2 V c 2 t
    | ⟨3, _⟩ => iblk2 V c 3 t
    | ⟨4, _⟩ => iblk2 V c 4 t
    | ⟨5, _⟩ => iblk2 V c 5 t
    | ⟨6, _⟩ => outH2 (iblk2 V c 0 t) (gfill2 V c t) (iblk2 V c 2 t) (iblk2 V c 3 t)
    | ⟨7, _⟩ => outZ2 (iblk2 V c 0 t) (gfill2 V c t) (iblk2 V c 2 t) (iblk2 V c 3 t) (iblk2 V c 4 t) (iblk2 V c 5 t)
  Φ _ := Pipeline.scopedRest spec4 c
  q _ := fullShare
  owed _ := O.1
  recorded _ := O.2

theorem A_eq2 (O : CellTallies nD τ sig Ix × Set (SemLoc sig × Ix)) (c : Dev nD) (w : Fin cfg4.W) :
    (dat2 Name U Lvl V O c).A w = V c (Pipeline.arrRef spec4 w) := by
  dsimp only [dat2]

theorem after2_0 (O : CellTallies nD τ sig Ix × Set (SemLoc sig × Ix)) (c : Dev nD) (t : Fin cfg4.N) :
    (dat2 Name U Lvl V O c).after 0 t = iblk2 V c 0 t := by dsimp only [dat2]
theorem after2_2 (O : CellTallies nD τ sig Ix × Set (SemLoc sig × Ix)) (c : Dev nD) (t : Fin cfg4.N) :
    (dat2 Name U Lvl V O c).after 2 t = iblk2 V c 2 t := by dsimp only [dat2]
theorem after2_3 (O : CellTallies nD τ sig Ix × Set (SemLoc sig × Ix)) (c : Dev nD) (t : Fin cfg4.N) :
    (dat2 Name U Lvl V O c).after 3 t = iblk2 V c 3 t := by dsimp only [dat2]
theorem after2_4 (O : CellTallies nD τ sig Ix × Set (SemLoc sig × Ix)) (c : Dev nD) (t : Fin cfg4.N) :
    (dat2 Name U Lvl V O c).after 4 t = iblk2 V c 4 t := by dsimp only [dat2]
theorem after2_5 (O : CellTallies nD τ sig Ix × Set (SemLoc sig × Ix)) (c : Dev nD) (t : Fin cfg4.N) :
    (dat2 Name U Lvl V O c).after 5 t = iblk2 V c 5 t := by dsimp only [dat2]
theorem after2_1 (O : CellTallies nD τ sig Ix × Set (SemLoc sig × Ix)) (c : Dev nD) (t : Fin cfg4.N) :
    (dat2 Name U Lvl V O c).after 1 t = gfill2 V c t := by dsimp only [dat2]
theorem after2_6 (O : CellTallies nD τ sig Ix × Set (SemLoc sig × Ix)) (c : Dev nD) (t : Fin cfg4.N) :
    (dat2 Name U Lvl V O c).after 6 t = outH2 (iblk2 V c 0 t) (gfill2 V c t) (iblk2 V c 2 t) (iblk2 V c 3 t) := by dsimp only [dat2]
theorem after2_7 (O : CellTallies nD τ sig Ix × Set (SemLoc sig × Ix)) (c : Dev nD) (t : Fin cfg4.N) :
    (dat2 Name U Lvl V O c).after 7 t = outZ2 (iblk2 V c 0 t) (gfill2 V c t) (iblk2 V c 2 t) (iblk2 V c 3 t) (iblk2 V c 4 t) (iblk2 V c 5 t) := by dsimp only [dat2]

theorem before2_0 (O : CellTallies nD τ sig Ix × Set (SemLoc sig × Ix)) (c : Dev nD) (t : Fin cfg4.N) (d) :
    (dat2 Name U Lvl V O c).before 0 t d = iblk2 V c 0 t :=
  before2_0_of V _ (A_eq2 V O c 0) (after2_0 V O c) t d
theorem before2_2 (O : CellTallies nD τ sig Ix × Set (SemLoc sig × Ix)) (c : Dev nD) (t : Fin cfg4.N) (d) :
    (dat2 Name U Lvl V O c).before 2 t d = iblk2 V c 2 t :=
  before2_2_of V _ (A_eq2 V O c 2) (after2_2 V O c) t d
theorem before2_3 (O : CellTallies nD τ sig Ix × Set (SemLoc sig × Ix)) (c : Dev nD) (t : Fin cfg4.N) (d) :
    (dat2 Name U Lvl V O c).before 3 t d = iblk2 V c 3 t :=
  before2_3_of V _ (A_eq2 V O c 3) (after2_3 V O c) t d
theorem before2_4 (O : CellTallies nD τ sig Ix × Set (SemLoc sig × Ix)) (c : Dev nD) (t : Fin cfg4.N) (d) :
    (dat2 Name U Lvl V O c).before 4 t d = iblk2 V c 4 t :=
  before2_4_of V _ (A_eq2 V O c 4) (after2_4 V O c) t d
theorem before2_5 (O : CellTallies nD τ sig Ix × Set (SemLoc sig × Ix)) (c : Dev nD) (t : Fin cfg4.N) (d) :
    (dat2 Name U Lvl V O c).before 5 t d = iblk2 V c 5 t :=
  before2_5_of V _ (A_eq2 V O c 5) (after2_5 V O c) t d
/-- The gathered sums' buffer, fetched at every point, holds the full block whatever it held before. -/
theorem before2_1 (O : CellTallies nD τ sig Ix × Set (SemLoc sig × Ix)) (c : Dev nD) (t : Fin cfg4.N) (d) :
    (dat2 Name U Lvl V O c).before 1 t d = gfill2 V c t := by
  unfold Dat.before; rw [if_pos (fetch4_1 t)]
  exact ((dat2 Name U Lvl V O c).fetched_of_clip_none 1 t (clip_none2 t) d (fun _ => Scalar.ofBits .f32 0#32)).trans
    (by unfold Dat.fetched Dat.blockOf gfill2 iblk2; rw [A_eq2]; try rfl)

/-- What the body is called with at point `t`, the windows one by one, -/
def bodyPre2 (O : CellTallies nD τ sig Ix × Set (SemLoc sig × Ix)) (ι : Ix) (c : Dev nD) (t : Fin cfg4.N) : sProp 𝕄 :=
  iprop((dat2 Name U Lvl V O c).Φ t.castSucc ∗ (dat2 Name U Lvl V O c).owesAt ι t.castSucc
    ∗ (∃ d, owns (c : Thread nD τ) (st4_0 t) fullShare ((dat2 Name U Lvl V O c).before 0 t d))
    ∗ (∃ d, owns (c : Thread nD τ) (st4_1 t) fullShare ((dat2 Name U Lvl V O c).before 1 t d))
    ∗ (∃ d, owns (c : Thread nD τ) (st4_2 t) fullShare ((dat2 Name U Lvl V O c).before 2 t d))
    ∗ (∃ d, owns (c : Thread nD τ) (st4_3 t) fullShare ((dat2 Name U Lvl V O c).before 3 t d))
    ∗ (∃ d, owns (c : Thread nD τ) (st4_4 t) fullShare ((dat2 Name U Lvl V O c).before 4 t d))
    ∗ (∃ d, owns (c : Thread nD τ) (st4_5 t) fullShare ((dat2 Name U Lvl V O c).before 5 t d))
    ∗ (∃ d, owns (c : Thread nD τ) (st4_6 t) fullShare ((dat2 Name U Lvl V O c).before 6 t d))
    ∗ (∃ d, owns (c : Thread nD τ) (st4_7 t) fullShare ((dat2 Name U Lvl V O c).before 7 t d)))

/-- and what it returns: every uncut window's buffer at what the body leaves; the gathered sums' on the part its
    transfers move (here all of it). -/
def bodyPost2 (O : CellTallies nD τ sig Ix × Set (SemLoc sig × Ix)) (ι : Ix) (c : Dev nD) (t : Fin cfg4.N) : sProp 𝕄 :=
  iprop((dat2 Name U Lvl V O c).Φ t.succ ∗ (dat2 Name U Lvl V O c).owesAt ι t.succ
    ∗ owns (c : Thread nD τ) (st4_0 t) fullShare ((dat2 Name U Lvl V O c).after 0 t)
    ∗ (∃ d, owns (c : Thread nD τ) (st4_1 t) fullShare ((cfg4.win 1).fill (cfg4.grid.coords t) d ((cfg4.win 1).cut (cfg4.grid.coords t) ((dat2 Name U Lvl V O c).after 1 t))))
    ∗ owns (c : Thread nD τ) (st4_2 t) fullShare ((dat2 Name U Lvl V O c).after 2 t)
    ∗ owns (c : Thread nD τ) (st4_3 t) fullShare ((dat2 Name U Lvl V O c).after 3 t)
    ∗ owns (c : Thread nD τ) (st4_4 t) fullShare ((dat2 Name U Lvl V O c).after 4 t)
    ∗ owns (c : Thread nD τ) (st4_5 t) fullShare ((dat2 Name U Lvl V O c).after 5 t)
    ∗ owns (c : Thread nD τ) (st4_6 t) fullShare ((dat2 Name U Lvl V O c).after 6 t)
    ∗ owns (c : Thread nD τ) (st4_7 t) fullShare ((dat2 Name U Lvl V O c).after 7 t))

/-- The body at any point: the inputs' buffers hold their blocks, so `sound_kernel2` applies; the invariant and the
    core's debts pass through unread. -/
theorem sound_body2 (𝒱₀ : Variants) (O : CellTallies nD τ sig Ix × Set (SemLoc sig × Ix)) (ι : Ix) (c : Dev nD) (t : Fin cfg4.N) :
    bodyPre2 (Name := Name) (U := U) (Lvl := Lvl) V O ι c t
      ⊢ wp frame (wpE (defs₀ (F := F)) 𝒱₀ c none) Set.univ (bodyAt4 t) (fun _ => bodyPost2 V O ι c t) := by
  unfold bodyPre2 bodyPost2 bodyAt4
  simp only [before2_0, before2_1, before2_2, before2_3, before2_4, before2_5]
  rw [show (dat2 Name U Lvl V O c).Φ t.succ = (dat2 Name U Lvl V O c).Φ t.castSucc from rfl,
    show (dat2 Name U Lvl V O c).owesAt ι t.succ = (dat2 Name U Lvl V O c).owesAt ι t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 𝒱₀ c Set.univ _ _ _ _ _ _ _ _ _ _ _ _ _ _ _ _ _
    (iblk2 V c 0 t) (gfill2 V c t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]
  · iexists (fun _ => Scalar.ofBits .f32 0#32)
    rw [show (cfg4.win 1).fill (cfg4.grid.coords t) (fun _ => Scalar.ofBits .f32 0#32) ((cfg4.win 1).cut (cfg4.grid.coords t) (gfill2 V c t)) = gfill2 V c t
      from gfill2_refill V c t]
    iexact H1
  isplitl [H2]; · iexact H2
  isplitl [H3]; · iexact H3
  isplitl [H4]; · iexact H4
  isplitl [H5]; · iexact H5
  isplitl [H6]; · iexact H6
  iexact H7

/-- The library's body obligation (in the form that states a cut window on the part its transfers move), at every point. -/
theorem body_obligation2 (𝒱₀ : Variants) (O : CellTallies nD τ sig Ix × Set (SemLoc sig × Ix)) (ι : Ix) (c : Dev nD) :
    Pipeline.BodyObligationLoose (dat2 Name U Lvl V O c) (defs₀ (F := F)) 𝒱₀ ι Set.univ := fun t => by
  rw [bigSep_W4, bigSep_W4]
  exact sound_body2 V 𝒱₀ O ι c t

end Region2

end Cert.KernelIdeal.Regions

end
-- ==== Proof.TcFused2Value.lean ====
import proofs.«205366_g3083786518796_cont_9to1_852_38_alg».proof.Proof.Gen.KernelIdeal.Launch
import proofs.«205366_g3083786518796_cont_9to1_852_38_alg».proof.Proof.Gen.KernelIdeal.Skeleton
import proofs.«205366_g3083786518796_cont_9to1_852_38_alg».proof.Proof.Gen.KernelIdeal.Points
import proofs.«205366_g3083786518796_cont_9to1_852_38_alg».proof.Proof.TcFused2Body
import proofs.«205366_g3083786518796_cont_9to1_852_38_alg».proof.Proof.TcBlocks
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# Region 2's results as whole-array functions of its arguments

Row `n` of each result is the body's payload of rows `2000 ⌊n / 2000⌋ …` of `z` and of the gathered sums and of the
whole weights and bias, read at row `n mod 2000`: the five write-backs piece each result together.
-/

/-- The activation, whole. -/
def H2 (z : Vec F S10000x128 .f32) (g : Vec F S10240x128 .f32) (wl : Vec F S128x128 .f32) (b : Vec F S1x128 .f32) : Vec F S10000x128 .f32 :=
  blockwise fun B => k4_pay1 (rowsOf z B) (rowsOfG g B) wl b
/-- The next layer's first product, whole. -/
def ZN2 (z : Vec F S10000x128 .f32) (g : Vec F S10240x128 .f32) (wl : Vec F S128x128 .f32) (b : Vec F S1x128 .f32) (wg ws : Vec F S128x128 .f32) : Vec F S10000x128 .f32 :=
  blockwise fun B => k4_pay2 (rowsOf z B) (rowsOfG g B) wl b wg ws

/-- The grid point as a block number. -/
def bpt2 (t : Fin cfg4.N) : Fin 5 := ⟨t.val, lt_of_lt_of_eq t.isLt N_4⟩

/-- The printed index maps over the grid: the row-blocked windows' block is the point's, the others' is the whole. -/
theorem idx_facts2 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

section Value2

variable (V : (c : Dev nD) → (b : Ref sig .tc) → Buf (Elt F) ((c : Thread nD τ).loc b))

theorem iblk2_0 (c : Dev nD) (t : Fin cfg4.N) : iblk2 V c 0 t = rowsOf (V c main_v11_1) (bpt2 t) := by
  funext y
  obtain ⟨e0, e1, -⟩ := idx_facts2 t
  have hy0 := idx2_lt0 y
  show V c main_v11_1 (((cfg4.win 0).blk t).view.emb y) = V c main_v11_1 (ix2 ⟨(bpt2 t).val * 2000 + (y 0).val, _⟩ (y 1))
  refine congrArg (V c main_v11_1) ?_
  funext a; apply Fin.ext
  match a with
  | ⟨0, _⟩ => show win4_0.index t (0 : Fin 2) * 2000 + 1 * (y 0).val = t.val * 2000 + (y 0).val; rw [e0]; omega
  | ⟨1, _⟩ => show win4_0.index t (1 : Fin 2) * 128 + 1 * (y 1).val = (y 1).val; rw [e1]; omega
theorem iblk2_2 (c : Dev nD) (t : Fin cfg4.N) : iblk2 V c 2 t = V c main_arg7 := by
  funext y
  obtain ⟨-, -, -, -, e0, e1, -⟩ := idx_facts2 t
  show V c main_arg7 (((cfg4.win 2).blk t).view.emb y) = V c main_arg7 y
  refine congrArg (V c main_arg7) ?_
  funext a; apply Fin.ext
  match a with
  | ⟨0, _⟩ => show win4_2.index t (0 : Fin 2) * 128 + 1 * (y 0).val = (y 0).val; rw [e0]; omega
  | ⟨1, _⟩ => show win4_2.index t (1 : Fin 2) * 128 + 1 * (y 1).val = (y 1).val; rw [e1]; omega
theorem iblk2_4 (c : Dev nD) (t : Fin cfg4.N) : iblk2 V c 4 t = V c main_arg10 := by
  funext y
  obtain ⟨-, -, -, -, -, -, -, -, e0, e1, -⟩ := idx_facts2 t
  show V c main_arg10 (((cfg4.win 4).blk t).view.emb y) = V c main_arg10 y
  refine congrArg (V c main_arg10) ?_
  funext a; apply Fin.ext
  match a with
  | ⟨0, _⟩ => show win4_4.index t (0 : Fin 2) * 128 + 1 * (y 0).val = (y 0).val; rw [e0]; omega
  | ⟨1, _⟩ => show win4_4.index t (1 : Fin 2) * 128 + 1 * (y 1).val = (y 1).val; rw [e1]; omega
theorem iblk2_5 (c : Dev nD) (t : Fin cfg4.N) : iblk2 V c 5 t = V c main_arg12 := by
  funext y
  obtain ⟨-, -, -, -, -, -, -, -, -, -, e0, e1, -⟩ := idx_facts2 t
  show V c main_arg12 (((cfg4.win 5).blk t).view.emb y) = V c main_arg12 y
  refine congrArg (V c main_arg12) ?_
  funext a; apply Fin.ext
  match a with
  | ⟨0, _⟩ => show win4_5.index t (0 : Fin 2) * 128 + 1 * (y 0).val = (y 0).val; rw [e0]; omega
  | ⟨1, _⟩ => show win4_5.index t (1 : Fin 2) * 128 + 1 * (y 1).val = (y 1).val; rw [e1]; omega
theorem iblk2_3 (c : Dev nD) (t : Fin cfg4.N) : iblk2 V c 3 t = V c main_v13 := by
  funext y
  obtain ⟨-, -, -, -, -, -, e0, e1, -⟩ := idx_facts2 t
  show V c main_v13 (((cfg4.win 3).blk t).view.emb y) = V c main_v13 y
  refine congrArg (V c main_v13) ?_
  funext a; apply Fin.ext
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-- The gathered sums' full block at point `t` is rows `2000 t …` of their array: nothing is cut, so every element
    of the block is one the fetch moved. -/
theorem gfill2_eq (c : Dev nD) (t : Fin cfg4.N) : gfill2 V c t = rowsOfG (V c main_v12) (bpt2 t) := by
  funext y
  obtain ⟨-, -, e0, e1, -⟩ := idx_facts2 t
  have hy0 := idx2_lt0 y
  have hm : win4_1.moved (grid4.coords t) y = true := (win4_1.moved_iff _ y).mpr fun a => by
    have := (y a).isLt; unfold Window.xsize; rw [show win4_1.clip (grid4.coords t) a = none from clip_none2 t a]; exact this
  unfold gfill2 Window.fill
  rw [dif_pos hm]
  show V c main_v12 (((cfg4.win 1).blk t).view.emb _) = V c main_v12 (ix2 ⟨(bpt2 t).val * 2000 + (y 0).val, _⟩ (y 1))
  refine congrArg (V c main_v12) ?_
  funext a; apply Fin.ext
  match a with
  | ⟨0, _⟩ => show win4_1.index t (0 : Fin 2) * 2000 + 1 * (y 0).val = t.val * 2000 + (y 0).val; rw [e0]; omega
  | ⟨1, _⟩ => show win4_1.index t (1 : Fin 2) * 128 + 1 * (y 1).val = (y 1).val; rw [e1]; omega

/-- An element of window 6's block at point `t` sits at row `2000 t + r`. -/
theorem emb2_6 (t : Fin cfg4.N) (j : S2000x128.Idx) (h : (bpt2 t).val * 2000 + (j 0).val < 10000) :
    ((cfg4.win 6).blk t).view.emb j = ix2 ⟨(bpt2 t).val * 2000 + (j 0).val, h⟩ (j 1) := by
  obtain ⟨-, -, -, -, -, -, -, -, -, -, -, -, e0, e1, -⟩ := idx_facts2 t
  funext a; apply Fin.ext
  match a with
  | ⟨0, _⟩ => show win4_6.index t (0 : Fin 2) * 2000 + 1 * (j 0).val = t.val * 2000 + (j 0).val; rw [e0]; omega
  | ⟨1, _⟩ => show win4_6.index t (1 : Fin 2) * 128 + 1 * (j 1).val = (j 1).val; rw [e1]; omega

/-- WHAT POINT `t` WRITES BACK through window 6 is block `t` of `H2` of the arrays as the region finds them. -/
theorem flushed2_6_eq (O : CellTallies nD τ sig Ix × Set (SemLoc sig × Ix)) (c : Dev nD) (t : Fin cfg4.N) :
    (dat2 Name U Lvl V O c).flushed 6 t
      = ((cfg4.win 6).blk t).view.read (Elt F) (H2 (V c main_v11_1) (V c main_v12) (V c main_arg7) (V c main_v13)) := by
  show (cfg4.win 6).cut (grid4.coords t) ((dat2 Name U Lvl V O c).after 6 t) = _
  rw [after2_6]
  unfold outH2
  rw [View.canon_unit_zero hz2]
  simp only [View.ld_unit_zero (S := S2000x128) hz2, View.ld_unit_zero (S := S128x128) hz2, View.ld_unit_zero (S := S1x128) hz2]
  rw [iblk2_0, gfill2_eq, iblk2_2, iblk2_3]
  funext j
  have hj := idx2_lt0 j
  have ht : (bpt2 t).val * 2000 + (j 0).val < 10000 := by have := (bpt2 t).isLt; omega
  show k4_pay1 (rowsOf (V c main_v11_1) (bpt2 t)) (rowsOfG (V c main_v12) (bpt2 t)) (V c main_arg7) (V c main_v13) j
    = H2 (V c main_v11_1) (V c main_v12) (V c main_arg7) (V c main_v13) (((cfg4.win 6).blk t).view.emb j)
  rw [emb2_6 t j ht]
  unfold H2
  exact (blockwise_at (fun B => k4_pay1 (rowsOf (V c main_v11_1) B) (rowsOfG (V c main_v12) B) (V c main_arg7) (V c main_v13)) (bpt2 t) j ht).symm

theorem mem_blk2_6 (t : Fin cfg4.N) (i : S10000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v14_0).slice (win4_6.rect t)).set ↔ _
  rw [View.set_slice_whole, Rect.mem_set_unit]
  exact Iff.rfl

/-- Every row is in the block of the point `⌊row / 2000⌋`. -/
theorem cover2_6 (i : S10000x128.Idx) :
    ∃ t : Fin cfg4.N, (cfg4.win 6).flush t = true ∧ i ∈ ((cfg4.win 6).blk t).view.set := by
  have hi0 := idx2_lt0 i
  have hi1 := idx2_lt1 i
  let t : Fin cfg4.N := ⟨(i 0).val / 2000, by rw [show cfg4.N = 5 from N_4]; omega⟩
  obtain ⟨-, -, -, -, -, -, -, -, -, -, -, -, e0, e1, -⟩ := idx_facts2 t
  refine ⟨t, flush4_6 t, ?_⟩
  rw [mem_blk2_6]
  intro a
  match a with
  | ⟨0, _⟩ => show win4_6.index t (0 : Fin 2) * 2000 ≤ (i 0).val ∧ (i 0).val < win4_6.index t (0 : Fin 2) * 2000 + 2000; rw [e0]; show (i 0).val / 2000 * 2000 ≤ (i 0).val ∧ (i 0).val < (i 0).val / 2000 * 2000 + 2000; omega
  | ⟨1, _⟩ => show win4_6.index t (1 : Fin 2) * 128 ≤ (i 1).val ∧ (i 1).val < win4_6.index t (1 : Fin 2) * 128 + 128; rw [e1]; omega

/-- THE ARRAY of window 6 after the region: `H2` of the input arrays as the region finds them. -/
theorem final2_6 (O : CellTallies nD τ sig Ix × Set (SemLoc sig × Ix)) (c : Dev nD) :
    (dat2 Name U Lvl V O c).arrAt 6 cfg4.N = H2 (V c main_v11_1) (V c main_v12) (V c main_arg7) (V c main_v13) :=
  (dat2 Name U Lvl V O c).arrAt_eq_of_cover 6 _ (fun t _ => flushed2_6_eq V O c t) cover2_6

/-- An element of window 7's block at point `t` sits at row `2000 t + r`. -/
theorem emb2_7 (t : Fin cfg4.N) (j : S2000x128.Idx) (h : (bpt2 t).val * 2000 + (j 0).val < 10000) :
    ((cfg4.win 7).blk t).view.emb j = ix2 ⟨(bpt2 t).val * 2000 + (j 0).val, h⟩ (j 1) := by
  obtain ⟨-, -, -, -, -, -, -, -, -, -, -, -, -, -, e0, e1⟩ := idx_facts2 t
  funext a; apply Fin.ext
  match a with
  | ⟨0, _⟩ => show win4_7.index t (0 : Fin 2) * 2000 + 1 * (j 0).val = t.val * 2000 + (j 0).val; rw [e0]; omega
  | ⟨1, _⟩ => show win4_7.index t (1 : Fin 2) * 128 + 1 * (j 1).val = (j 1).val; rw [e1]; omega

/-- WHAT POINT `t` WRITES BACK through window 7 is block `t` of `ZN2` of the arrays as the region finds them. -/
theorem flushed2_7_eq (O : CellTallies nD τ sig Ix × Set (SemLoc sig × Ix)) (c : Dev nD) (t : Fin cfg4.N) :
    (dat2 Name U Lvl V O c).flushed 7 t
      = ((cfg4.win 7).blk t).view.read (Elt F) (ZN2 (V c main_v11_1) (V c main_v12) (V c main_arg7) (V c main_v13) (V c main_arg10) (V c main_arg12)) := by
  show (cfg4.win 7).cut (grid4.coords t) ((dat2 Name U Lvl V O c).after 7 t) = _
  rw [after2_7]
  unfold outZ2
  rw [View.canon_unit_zero hz2]
  simp only [View.ld_unit_zero (S := S2000x128) hz2, View.ld_unit_zero (S := S128x128) hz2, View.ld_unit_zero (S := S1x128) hz2]
  rw [iblk2_0, gfill2_eq, iblk2_2, iblk2_3, iblk2_4, iblk2_5]
  funext j
  have hj := idx2_lt0 j
  have ht : (bpt2 t).val * 2000 + (j 0).val < 10000 := by have := (bpt2 t).isLt; omega
  show k4_pay2 (rowsOf (V c main_v11_1) (bpt2 t)) (rowsOfG (V c main_v12) (bpt2 t)) (V c main_arg7) (V c main_v13) (V c main_arg10) (V c main_arg12) j
    = ZN2 (V c main_v11_1) (V c main_v12) (V c main_arg7) (V c main_v13) (V c main_arg10) (V c main_arg12) (((cfg4.win 7).blk t).view.emb j)
  rw [emb2_7 t j ht]
  unfold ZN2
  exact (blockwise_at (fun B => k4_pay2 (rowsOf (V c main_v11_1) B) (rowsOfG (V c main_v12) B) (V c main_arg7) (V c main_v13) (V c main_arg10) (V c main_arg12)) (bpt2 t) j ht).symm

theorem mem_blk2_7 (t : Fin cfg4.N) (i : S10000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_v14_1).slice (win4_7.rect t)).set ↔ _
  rw [View.set_slice_whole, Rect.mem_set_unit]
  exact Iff.rfl

/-- Every row is in the block of the point `⌊row / 2000⌋`. -/
theorem cover2_7 (i : S10000x128.Idx) :
    ∃ t : Fin cfg4.N, (cfg4.win 7).flush t = true ∧ i ∈ ((cfg4.win 7).blk t).view.set := by
  have hi0 := idx2_lt0 i
  have hi1 := idx2_lt1 i
  let t : Fin cfg4.N := ⟨(i 0).val / 2000, by rw [show cfg4.N = 5 from N_4]; omega⟩
  obtain ⟨-, -, -, -, -, -, -, -, -, -, -, -, -, -, e0, e1⟩ := idx_facts2 t
  refine ⟨t, flush4_7 t, ?_⟩
  rw [mem_blk2_7]
  intro a
  match a with
  | ⟨0, _⟩ => show win4_7.index t (0 : Fin 2) * 2000 ≤ (i 0).val ∧ (i 0).val < win4_7.index t (0 : Fin 2) * 2000 + 2000; rw [e0]; show (i 0).val / 2000 * 2000 ≤ (i 0).val ∧ (i 0).val < (i 0).val / 2000 * 2000 + 2000; omega
  | ⟨1, _⟩ => show win4_7.index t (1 : Fin 2) * 128 ≤ (i 1).val ∧ (i 1).val < win4_7.index t (1 : Fin 2) * 128 + 128; rw [e1]; omega

/-- THE ARRAY of window 7 after the region: `ZN2` of the input arrays as the region finds them. -/
theorem final2_7 (O : CellTallies nD τ sig Ix × Set (SemLoc sig × Ix)) (c : Dev nD) :
    (dat2 Name U Lvl V O c).arrAt 7 cfg4.N = ZN2 (V c main_v11_1) (V c main_v12) (V c main_arg7) (V c main_v13) (V c main_arg10) (V c main_arg12) :=
  (dat2 Name U Lvl V O c).arrAt_eq_of_cover 7 _ (fun t _ => flushed2_7_eq V O c t) cover2_7

/-- The input arrays are as the region found them. -/
theorem kept2 (O : CellTallies nD τ sig Ix × Set (SemLoc sig × Ix)) (c : Dev nD) (w : Fin cfg4.W) (hw : (cfg4.win w).isOut = false) (n : Nat) :
    (dat2 Name U Lvl V O c).arrAt w n = V c (Pipeline.arrRef spec4 w) :=
  ((dat2 Name U Lvl V O c).arrAt_in w hw n).trans (A_eq2 V O c w)

end Value2

end Cert.KernelIdeal.Regions

end
-- ==== Proof.TcOutBody.lean ====
import proofs.«205366_g3083786518796_cont_9to1_852_38_alg».proof.Proof.Gen.KernelIdeal.Launch
import proofs.«205366_g3083786518796_cont_9to1_852_38_alg».proof.Proof.Gen.KernelIdeal.Skeleton
import proofs.«205366_g3083786518796_cont_9to1_852_38_alg».proof.Proof.Gen.KernelIdeal.Points
import proofs.«205366_g3083786518796_cont_9to1_852_38_alg».proof.Proof.TcZBody
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# The last TensorCore region: a = z + g · (Wl / 32)ᵀ + b,  out = a if a > 0 else exp a − 1

Point `t` of the five reads rows `2000 t … 2000 t + 1999` of `z` and of the gathered sums `g` (10240 rows, the five
blocks inside the first 10000), the whole weight matrix and the bias row, and writes the same rows of the result.
Stated at a parameter `V`: the TensorCore's buffer contents when the region is entered.
-/

section Region3

variable (V : (c : Dev nD) → (b : Ref sig .tc) → Buf (Elt F) ((c : Thread nD τ).loc b))

/-- Window `w`'s block at point `t`, read off its array as the region finds it. -/
def iblk3 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- No block of the gathered sums' window is cut: all five lie inside the 10240 rows. -/
theorem clip_none3 : ∀ (t : Fin cfg6.N) (a : Fin 2), (cfg6.win 1).clip (cfg6.grid.coords t) a = none :=
  (by decide +kernel : ∀ (t : Fin grid6.N) (a : Fin 2), win6_1.clip (grid6.coords t) a = none)

/-- The gathered sums' block at point `t` as a full staging block (the filler is never seen: nothing is cut). -/
def gfill3 (c : Dev nD) (t : Fin cfg6.N) : S2000x128.Idx → Elt F .f32 :=
  win6_1.fill (grid6.coords t) (fun _ => Scalar.ofBits .f32 0#32) (iblk3 V c 1 t)

theorem gfill3_refill (c : Dev nD) (t : Fin cfg6.N) :
    win6_1.fill (grid6.coords t) (fun _ => Scalar.ofBits .f32 0#32) (win6_1.cut (grid6.coords t) (gfill3 V c t)) = gfill3 V c t := by
  unfold gfill3; rw [Window.cut_fill]

/-- An uncut input window's current staging buffer holds its block at every point, fetched there or not. -/
theorem before3_0_of {c : Dev nD} (dat : Dat τ (Elt F) Ix Name U Lvl cfg6 c) (hA : dat.A 0 = V c (Pipeline.arrRef spec6 0))
    (hafter : ∀ t, dat.after 0 t = iblk3 V c 0 t) (t : Fin cfg6.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Ix Name U Lvl cfg6 c) (hA : dat.A 2 = V c (Pipeline.arrRef spec6 2))
    (hafter : ∀ t, dat.after 2 t = iblk3 V c 2 t) (t : Fin cfg6.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Ix Name U Lvl cfg6 c) (hA : dat.A 3 = V c (Pipeline.arrRef spec6 3))
    (hafter : ∀ t, dat.after 3 t = iblk3 V c 3 t) (t : Fin cfg6.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The bias row as a rectangle. -/
abbrev rb3 : Rect S1x128 := Rect.unit (s := S1x128) ![0, 0] S1x128.size inb_S1x128_S1x128_0_0

/-- What the body leaves in the result's block: one store of the payload of the loaded blocks. -/
def outH3 (z g : Vec F S2000x128 .f32) (wl : Vec F S128x128 .f32) (b : Vec F S1x128 .f32) : Vec F S2000x128 .f32 :=
  View.canon [⟨rB, k6_pay1 (View.ld z rB) (View.ld g rB) (View.ld wl rW) (View.ld b rb3)⟩]

set_option maxHeartbeats 400000 in
/-- The body on whole staging memrefs: the four inputs are read and left as they were, the output block ends at
    `outH3` of them. -/
theorem sound_kernel3 (𝒱₀ : Variants) (c : Dev nD) (E : Set Name) (i : grid6.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (z g : Vec F S2000x128 .f32) (wl : Vec F S128x128 .f32) (b : Vec F S1x128 .f32) (K : PUnit → sProp 𝕄) :
    iprop(owns (c : Thread nD τ) arg1 fullShare z ∗ owns (c : Thread nD τ) arg2 fullShare g ∗ owns (c : Thread nD τ) arg3 fullShare wl
        ∗ owns (c : Thread nD τ) arg4 fullShare b ∗ (∃ d, owns (c : Thread nD τ) arg5 fullShare d)
        ∗ (iprop(owns (c : Thread nD τ) arg1 fullShare z ∗ owns (c : Thread nD τ) arg2 fullShare g ∗ owns (c : Thread nD τ) arg3 fullShare wl
            ∗ owns (c : Thread nD τ) arg4 fullShare b ∗ owns (c : Thread nD τ) arg5 fullShare (outH3 z g wl b)) -∗ K ⟨⟩))
      ⊢ wp frame (wpE (defs₀ (F := F)) 𝒱₀ c none) E
          (cc6__tc_out_body i arg1 harg1 arg2 harg2 arg3 harg3 arg4 harg4 arg5 harg5) K := by
  simp only [cc6__tc_out_body_eq_skeleton]; unfold cc6__tc_out_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

variable (Name U Lvl) in
/-- The proof data of this region on core `c`: the arrays as the region finds them; after the body at point `t`
    each input's buffer at its block (the gathered sums' as a full block) and the output's at the payload of the
    four input blocks; the invariant is the scoped buffers no window stages, untouched; the core owes the same
    tallies `O.1` throughout, its recorded waits (the pipeline's own apart) within `O.2`; full shares. -/
def dat3 (O : CellTallies nD τ sig Ix × Set (SemLoc sig × Ix)) (c : Dev nD) : Dat τ (Elt F) Ix Name U Lvl cfg6 c where
  A w := V c (Pipeline.arrRef spec6 w)
  after w t := match w with
    | ⟨0, _⟩ => iblk3 V c 0 t
    | ⟨1, _⟩ => gfill3 V c t
    | ⟨2, _⟩ => iblk3 V c 2 t
    | ⟨3, _⟩ => iblk3 V c 3 t
    | ⟨4, _⟩ => outH3 (iblk3 V c 0 t) (gfill3 V c t) (iblk3 V c 2 t) (iblk3 V c 3 t)
  Φ _ := Pipeline.scopedRest spec6 c
  q _ := fullShare
  owed _ := O.1
  recorded _ := O.2

theorem A_eq3 (O : CellTallies nD τ sig Ix × Set (SemLoc sig × Ix)) (c : Dev nD) (w : Fin cfg6.W) :
    (dat3 Name U Lvl V O c).A w = V c (Pipeline.arrRef spec6 w) := by
  dsimp only [dat3]

theorem after3_0 (O : CellTallies nD τ sig Ix × Set (SemLoc sig × Ix)) (c : Dev nD) (t : Fin cfg6.N) :
    (dat3 Name U Lvl V O c).after 0 t = iblk3 V c 0 t := by dsimp only [dat3]
theorem after3_2 (O : CellTallies nD τ sig Ix × Set (SemLoc sig × Ix)) (c : Dev nD) (t : Fin cfg6.N) :
    (dat3 Name U Lvl V O c).after 2 t = iblk3 V c 2 t := by dsimp only [dat3]
theorem after3_3 (O : CellTallies nD τ sig Ix × Set (SemLoc sig × Ix)) (c : Dev nD) (t : Fin cfg6.N) :
    (dat3 Name U Lvl V O c).after 3 t = iblk3 V c 3 t := by dsimp only [dat3]
theorem after3_1 (O : CellTallies nD τ sig Ix × Set (SemLoc sig × Ix)) (c : Dev nD) (t : Fin cfg6.N) :
    (dat3 Name U Lvl V O c).after 1 t = gfill3 V c t := by dsimp only [dat3]
theorem after3_4 (O : CellTallies nD τ sig Ix × Set (SemLoc sig × Ix)) (c : Dev nD) (t : Fin cfg6.N) :
    (dat3 Name U Lvl V O c).after 4 t = outH3 (iblk3 V c 0 t) (gfill3 V c t) (iblk3 V c 2 t) (iblk3 V c 3 t) := by dsimp only [dat3]

theorem before3_0 (O : CellTallies nD τ sig Ix × Set (SemLoc sig × Ix)) (c : Dev nD) (t : Fin cfg6.N) (d) :
    (dat3 Name U Lvl V O c).before 0 t d = iblk3 V c 0 t :=
  before3_0_of V _ (A_eq3 V O c 0) (after3_0 V O c) t d
theorem before3_2 (O : CellTallies nD τ sig Ix × Set (SemLoc sig × Ix)) (c : Dev nD) (t : Fin cfg6.N) (d) :
    (dat3 Name U Lvl V O c).before 2 t d = iblk3 V c 2 t :=
  before3_2_of V _ (A_eq3 V O c 2) (after3_2 V O c) t d
theorem before3_3 (O : CellTallies nD τ sig Ix × Set (SemLoc sig × Ix)) (c : Dev nD) (t : Fin cfg6.N) (d) :
    (dat3 Name U Lvl V O c).before 3 t d = iblk3 V c 3 t :=
  before3_3_of V _ (A_eq3 V O c 3) (after3_3 V O c) t d
/-- The gathered sums' buffer, fetched at every point, holds the full block whatever it held before. -/
theorem before3_1 (O : CellTallies nD τ sig Ix × Set (SemLoc sig × Ix)) (c : Dev nD) (t : Fin cfg6.N) (d) :
    (dat3 Name U Lvl V O c).before 1 t d = gfill3 V c t := by
  unfold Dat.before; rw [if_pos (fetch6_1 t)]
  exact ((dat3 Name U Lvl V O c).fetched_of_clip_none 1 t (clip_none3 t) d (fun _ => Scalar.ofBits .f32 0#32)).trans
    (by unfold Dat.fetched Dat.blockOf gfill3 iblk3; rw [A_eq3]; try rfl)

/-- What the body is called with at point `t`, the windows one by one, -/
def bodyPre3 (O : CellTallies nD τ sig Ix × Set (SemLoc sig × Ix)) (ι : Ix) (c : Dev nD) (t : Fin cfg6.N) : sProp 𝕄 :=
  iprop((dat3 Name U Lvl V O c).Φ t.castSucc ∗ (dat3 Name U Lvl V O c).owesAt ι t.castSucc
    ∗ (∃ d, owns (c : Thread nD τ) (st6_0 t) fullShare ((dat3 Name U Lvl V O c).before 0 t d))
    ∗ (∃ d, owns (c : Thread nD τ) (st6_1 t) fullShare ((dat3 Name U Lvl V O c).before 1 t d))
    ∗ (∃ d, owns (c : Thread nD τ) (st6_2 t) fullShare ((dat3 Name U Lvl V O c).before 2 t d))
    ∗ (∃ d, owns (c : Thread nD τ) (st6_3 t) fullShare ((dat3 Name U Lvl V O c).before 3 t d))
    ∗ (∃ d, owns (c : Thread nD τ) (st6_4 t) fullShare ((dat3 Name U Lvl V O c).before 4 t d)))

/-- and what it returns: every uncut window's buffer at what the body leaves; the gathered sums' on the part its
    transfers move (here all of it). -/
def bodyPost3 (O : CellTallies nD τ sig Ix × Set (SemLoc sig × Ix)) (ι : Ix) (c : Dev nD) (t : Fin cfg6.N) : sProp 𝕄 :=
  iprop((dat3 Name U Lvl V O c).Φ t.succ ∗ (dat3 Name U Lvl V O c).owesAt ι t.succ
    ∗ owns (c : Thread nD τ) (st6_0 t) fullShare ((dat3 Name U Lvl V O c).after 0 t)
    ∗ (∃ d, owns (c : Thread nD τ) (st6_1 t) fullShare ((cfg6.win 1).fill (cfg6.grid.coords t) d ((cfg6.win 1).cut (cfg6.grid.coords t) ((dat3 Name U Lvl V O c).after 1 t))))
    ∗ owns (c : Thread nD τ) (st6_2 t) fullShare ((dat3 Name U Lvl V O c).after 2 t)
    ∗ owns (c : Thread nD τ) (st6_3 t) fullShare ((dat3 Name U Lvl V O c).after 3 t)
    ∗ owns (c : Thread nD τ) (st6_4 t) fullShare ((dat3 Name U Lvl V O c).after 4 t))

/-- The body at any point: the inputs' buffers hold their blocks, so `sound_kernel3` applies; the invariant and the
    core's debts pass through unread. -/
theorem sound_body3 (𝒱₀ : Variants) (O : CellTallies nD τ sig Ix × Set (SemLoc sig × Ix)) (ι : Ix) (c : Dev nD) (t : Fin cfg6.N) :
    bodyPre3 (Name := Name) (U := U) (Lvl := Lvl) V O ι c t
      ⊢ wp frame (wpE (defs₀ (F := F)) 𝒱₀ c none) Set.univ (bodyAt6 t) (fun _ => bodyPost3 V O ι c t) := by
  unfold bodyPre3 bodyPost3 bodyAt6
  simp only [before3_0, before3_1, before3_2, before3_3]
  rw [show (dat3 Name U Lvl V O c).Φ t.succ = (dat3 Name U Lvl V O c).Φ t.castSucc from rfl,
    show (dat3 Name U Lvl V O c).owesAt ι t.succ = (dat3 Name U Lvl V O c).owesAt ι t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 𝒱₀ c Set.univ _ _ _ _ _ _ _ _ _ _ _
    (iblk3 V c 0 t) (gfill3 V c t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]
  · iexists (fun _ => Scalar.ofBits .f32 0#32)
    rw [show (cfg6.win 1).fill (cfg6.grid.coords t) (fun _ => Scalar.ofBits .f32 0#32) ((cfg6.win 1).cut (cfg6.grid.coords t) (gfill3 V c t)) = gfill3 V c t
      from gfill3_refill V c t]
    iexact H1
  isplitl [H2]; · iexact H2
  isplitl [H3]; · iexact H3
  iexact H4

/-- The library's body obligation (in the form that states a cut window on the part its transfers move), at every point. -/
theorem body_obligation3 (𝒱₀ : Variants) (O : CellTallies nD τ sig Ix × Set (SemLoc sig × Ix)) (ι : Ix) (c : Dev nD) :
    Pipeline.BodyObligationLoose (dat3 Name U Lvl V O c) (defs₀ (F := F)) 𝒱₀ ι Set.univ := fun t => by
  rw [bigSep_W6, bigSep_W6]
  exact sound_body3 V 𝒱₀ O ι c t

end Region3

end Cert.KernelIdeal.Regions

end
-- ==== Proof.TcOutValue.lean ====
import proofs.«205366_g3083786518796_cont_9to1_852_38_alg».proof.Proof.Gen.KernelIdeal.Launch
import proofs.«205366_g3083786518796_cont_9to1_852_38_alg».proof.Proof.Gen.KernelIdeal.Skeleton
import proofs.«205366_g3083786518796_cont_9to1_852_38_alg».proof.Proof.Gen.KernelIdeal.Points
import proofs.«205366_g3083786518796_cont_9to1_852_38_alg».proof.Proof.TcOutBody
import proofs.«205366_g3083786518796_cont_9to1_852_38_alg».proof.Proof.TcBlocks
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# Region 3's results as whole-array functions of its arguments

Row `n` of each result is the body's payload of rows `2000 ⌊n / 2000⌋ …` of `z` and of the gathered sums and of the
whole weights and bias, read at row `n mod 2000`: the five write-backs piece each result together.
-/

/-- The activation, whole. -/
def H3 (z : Vec F S10000x128 .f32) (g : Vec F S10240x128 .f32) (wl : Vec F S128x128 .f32) (b : Vec F S1x128 .f32) : Vec F S10000x128 .f32 :=
  blockwise fun B => k6_pay1 (rowsOf z B) (rowsOfG g B) wl b

/-- The grid point as a block number. -/
def bpt3 (t : Fin cfg6.N) : Fin 5 := ⟨t.val, lt_of_lt_of_eq t.isLt N_6⟩

/-- The printed index maps over the grid: the row-blocked windows' block is the point's, the others' is the whole. -/
theorem idx_facts3 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

section Value3

variable (V : (c : Dev nD) → (b : Ref sig .tc) → Buf (Elt F) ((c : Thread nD τ).loc b))

theorem iblk3_0 (c : Dev nD) (t : Fin cfg6.N) : iblk3 V c 0 t = rowsOf (V c main_v14_1) (bpt3 t) := by
  funext y
  obtain ⟨e0, e1, -⟩ := idx_facts3 t
  have hy0 := idx2_lt0 y
  show V c main_v14_1 (((cfg6.win 0).blk t).view.emb y) = V c main_v14_1 (ix2 ⟨(bpt3 t).val * 2000 + (y 0).val, _⟩ (y 1))
  refine congrArg (V c main_v14_1) ?_
  funext a; apply Fin.ext
  match a with
  | ⟨0, _⟩ => show win6_0.index t (0 : Fin 2) * 2000 + 1 * (y 0).val = t.val * 2000 + (y 0).val; rw [e0]; omega
  | ⟨1, _⟩ => show win6_0.index t (1 : Fin 2) * 128 + 1 * (y 1).val = (y 1).val; rw [e1]; omega
theorem iblk3_2 (c : Dev nD) (t : Fin cfg6.N) : iblk3 V c 2 t = V c main_arg11 := by
  funext y
  obtain ⟨-, -, -, -, e0, e1, -⟩ := idx_facts3 t
  show V c main_arg11 (((cfg6.win 2).blk t).view.emb y) = V c main_arg11 y
  refine congrArg (V c main_arg11) ?_
  funext a; apply Fin.ext
  match a with
  | ⟨0, _⟩ => show win6_2.index t (0 : Fin 2) * 128 + 1 * (y 0).val = (y 0).val; rw [e0]; omega
  | ⟨1, _⟩ => show win6_2.index t (1 : Fin 2) * 128 + 1 * (y 1).val = (y 1).val; rw [e1]; omega
theorem iblk3_3 (c : Dev nD) (t : Fin cfg6.N) : iblk3 V c 3 t = V c main_v16 := by
  funext y
  obtain ⟨-, -, -, -, -, -, e0, e1, -⟩ := idx_facts3 t
  show V c main_v16 (((cfg6.win 3).blk t).view.emb y) = V c main_v16 y
  refine congrArg (V c main_v16) ?_
  funext a; apply Fin.ext
  match a with
  | ⟨0, _⟩ => show win6_3.index t (0 : Fin 2) * 1 + 1 * (y 0).val = (y 0).val; rw [e0]; omega
  | ⟨1, _⟩ => show win6_3.index t (1 : Fin 2) * 128 + 1 * (y 1).val = (y 1).val; rw [e1]; omega

/-- The gathered sums' full block at point `t` is rows `2000 t …` of their array: nothing is cut, so every element
    of the block is one the fetch moved. -/
theorem gfill3_eq (c : Dev nD) (t : Fin cfg6.N) : gfill3 V c t = rowsOfG (V c main_v15) (bpt3 t) := by
  funext y
  obtain ⟨-, -, e0, e1, -⟩ := idx_facts3 t
  have hy0 := idx2_lt0 y
  have hm : win6_1.moved (grid6.coords t) y = true := (win6_1.moved_iff _ y).mpr fun a => by
    have := (y a).isLt; unfold Window.xsize; rw [show win6_1.clip (grid6.coords t) a = none from clip_none3 t a]; exact this
  unfold gfill3 Window.fill
  rw [dif_pos hm]
  show V c main_v15 (((cfg6.win 1).blk t).view.emb _) = V c main_v15 (ix2 ⟨(bpt3 t).val * 2000 + (y 0).val, _⟩ (y 1))
  refine congrArg (V c main_v15) ?_
  funext a; apply Fin.ext
  match a with
  | ⟨0, _⟩ => show win6_1.index t (0 : Fin 2) * 2000 + 1 * (y 0).val = t.val * 2000 + (y 0).val; rw [e0]; omega
  | ⟨1, _⟩ => show win6_1.index t (1 : Fin 2) * 128 + 1 * (y 1).val = (y 1).val; rw [e1]; omega

/-- An element of window 4's block at point `t` sits at row `2000 t + r`. -/
theorem emb3_4 (t : Fin cfg6.N) (j : S2000x128.Idx) (h : (bpt3 t).val * 2000 + (j 0).val < 10000) :
    ((cfg6.win 4).blk t).view.emb j = ix2 ⟨(bpt3 t).val * 2000 + (j 0).val, h⟩ (j 1) := by
  obtain ⟨-, -, -, -, -, -, -, -, e0, e1⟩ := idx_facts3 t
  funext a; apply Fin.ext
  match a with
  | ⟨0, _⟩ => show win6_4.index t (0 : Fin 2) * 2000 + 1 * (j 0).val = t.val * 2000 + (j 0).val; rw [e0]; omega
  | ⟨1, _⟩ => show win6_4.index t (1 : Fin 2) * 128 + 1 * (j 1).val = (j 1).val; rw [e1]; omega

/-- WHAT POINT `t` WRITES BACK through window 4 is block `t` of `H3` of the arrays as the region finds them. -/
theorem flushed3_4_eq (O : CellTallies nD τ sig Ix × Set (SemLoc sig × Ix)) (c : Dev nD) (t : Fin cfg6.N) :
    (dat3 Name U Lvl V O c).flushed 4 t
      = ((cfg6.win 4).blk t).view.read (Elt F) (H3 (V c main_v14_1) (V c main_v15) (V c main_arg11) (V c main_v16)) := by
  show (cfg6.win 4).cut (grid6.coords t) ((dat3 Name U Lvl V O c).after 4 t) = _
  rw [after3_4]
  unfold outH3
  rw [View.canon_unit_zero hz2]
  simp only [View.ld_unit_zero (S := S2000x128) hz2, View.ld_unit_zero (S := S128x128) hz2, View.ld_unit_zero (S := S1x128) hz2]
  rw [iblk3_0, gfill3_eq, iblk3_2, iblk3_3]
  funext j
  have hj := idx2_lt0 j
  have ht : (bpt3 t).val * 2000 + (j 0).val < 10000 := by have := (bpt3 t).isLt; omega
  show k6_pay1 (rowsOf (V c main_v14_1) (bpt3 t)) (rowsOfG (V c main_v15) (bpt3 t)) (V c main_arg11) (V c main_v16) j
    = H3 (V c main_v14_1) (V c main_v15) (V c main_arg11) (V c main_v16) (((cfg6.win 4).blk t).view.emb j)
  rw [emb3_4 t j ht]
  unfold H3
  exact (blockwise_at (fun B => k6_pay1 (rowsOf (V c main_v14_1) B) (rowsOfG (V c main_v15) B) (V c main_arg11) (V c main_v16)) (bpt3 t) j ht).symm

theorem mem_blk3_4 (t : Fin cfg6.N) (i : S10000x128.Idx) :
    i ∈ ((cfg6.win 4).blk t).view.set ↔ ∀ a : Fin 2, win6_4.index t a * S2000x128.size a ≤ (i a).val ∧ (i a).val < win6_4.index t a * S2000x128.size a + S2000x128.size a := by
  show i ∈ ((View.whole main_v17).slice (win6_4.rect t)).set ↔ _
  rw [View.set_slice_whole, Rect.mem_set_unit]
  exact Iff.rfl

/-- Every row is in the block of the point `⌊row / 2000⌋`. -/
theorem cover3_4 (i : S10000x128.Idx) :
    ∃ t : Fin cfg6.N, (cfg6.win 4).flush t = true ∧ i ∈ ((cfg6.win 4).blk t).view.set := by
  have hi0 := idx2_lt0 i
  have hi1 := idx2_lt1 i
  let t : Fin cfg6.N := ⟨(i 0).val / 2000, by rw [show cfg6.N = 5 from N_6]; omega⟩
  obtain ⟨-, -, -, -, -, -, -, -, e0, e1⟩ := idx_facts3 t
  refine ⟨t, flush6_4 t, ?_⟩
  rw [mem_blk3_4]
  intro a
  match a with
  | ⟨0, _⟩ => show win6_4.index t (0 : Fin 2) * 2000 ≤ (i 0).val ∧ (i 0).val < win6_4.index t (0 : Fin 2) * 2000 + 2000; rw [e0]; show (i 0).val / 2000 * 2000 ≤ (i 0).val ∧ (i 0).val < (i 0).val / 2000 * 2000 + 2000; omega
  | ⟨1, _⟩ => show win6_4.index t (1 : Fin 2) * 128 ≤ (i 1).val ∧ (i 1).val < win6_4.index t (1 : Fin 2) * 128 + 128; rw [e1]; omega

/-- THE ARRAY of window 4 after the region: `H3` of the input arrays as the region finds them. -/
theorem final3_4 (O : CellTallies nD τ sig Ix × Set (SemLoc sig × Ix)) (c : Dev nD) :
    (dat3 Name U Lvl V O c).arrAt 4 cfg6.N = H3 (V c main_v14_1) (V c main_v15) (V c main_arg11) (V c main_v16) :=
  (dat3 Name U Lvl V O c).arrAt_eq_of_cover 4 _ (fun t _ => flushed3_4_eq V O c t) cover3_4

/-- The input arrays are as the region found them. -/
theorem kept3 (O : CellTallies nD τ sig Ix × Set (SemLoc sig × Ix)) (c : Dev nD) (w : Fin cfg6.W) (hw : (cfg6.win w).isOut = false) (n : Nat) :
    (dat3 Name U Lvl V O c).arrAt w n = V c (Pipeline.arrRef spec6 w) :=
  ((dat3 Name U Lvl V O c).arrAt_in w hw n).trans (A_eq3 V O c w)

end Value3

end Cert.KernelIdeal.Regions

end
-- ==== Proof.TcLayers.lean ====
import proofs.«205366_g3083786518796_cont_9to1_852_38_alg».proof.Proof.TcZValue
import proofs.«205366_g3083786518796_cont_9to1_852_38_alg».proof.Proof.TcBlocks
import proofs.«205366_g3083786518796_cont_9to1_852_38_alg».proof.Proof.TcPayIdeal
import proofs.«205366_g3083786518796_cont_9to1_852_38_alg».proof.Proof.TcFused1Value
import proofs.«205366_g3083786518796_cont_9to1_852_38_alg».proof.Proof.TcFused2Value
import proofs.«205366_g3083786518796_cont_9to1_852_38_alg».proof.Proof.TcOutValue
import proofs.«205366_g3083786518796_cont_9to1_852_38_alg».proof.Proof.SpecIdx

noncomputable section

/-!
# The regions' results over the extended reals: one layer of the network each

The first region gives `z₀ = x · (Wg₀ + Ws₀)ᵀ`.  Each later region takes a `z` that is the previous activation's first
product and the gathered neighbour sums `g` of that activation, and gives the layer's activation
`ELU(z + g · (Wl / 32)ᵀ + b)` — the specification's `layerKer` — and, when fused, the next layer's `z`.
-/

namespace Cert.KernelIdeal.Regions

open Idealize.ShloMosaic Idealize.ShloMosaic.ValueIdx
open Cert.KernelIdeal.Gen Cert.Spec Cert.SpecIdx
open scoped BigOperators

/-- A block's row back in the array. -/
theorem rowsOf_div_mod {α : Type} (x : S10000x128.Idx → α) (n : Fin 10000) (j : Fin 128) :
    rowsOf x ⟨n.val / 2000, by omega⟩ (ix2 (⟨n.val % 2000, Nat.mod_lt _ (by decide)⟩ : Fin 2000) j) = x (ix2 n j) := by
  unfold rowsOf
  refine congrArg x ?_
  funext a; match a with
  | ⟨0, _⟩ => exact Fin.ext (by show n.val / 2000 * 2000 + n.val % 2000 = n.val; omega)
  | ⟨1, _⟩ => rfl
theorem rowsOfG_div_mod {α : Type} (g : S10240x128.Idx → α) (n : Fin 10000) (j : Fin 128) :
    rowsOfG g ⟨n.val / 2000, by omega⟩ (ix2 (⟨n.val % 2000, Nat.mod_lt _ (by decide)⟩ : Fin 2000) j) = g (ix2 (⟨n.val, by omega⟩ : Fin 10240) j) := by
  unfold rowsOfG
  refine congrArg g ?_
  funext a; match a with
  | ⟨0, _⟩ => exact Fin.ext (by show n.val / 2000 * 2000 + n.val % 2000 = n.val; omega)
  | ⟨1, _⟩ => rfl

/-- The first region's result, entry by entry. -/
theorem Z0_ideal (x : FVec Ideal S10000x128 .f32) (wg ws : FVec Ideal S128x128 .f32) (n : Fin 10000) (o : Fin 128) :
    Z0 (F := Ideal) x wg ws (ix2 n o) = ∑ j : Fin 128, x (ix2 n j) * (wg (ix2 o j) + ws (ix2 o j)) := by
  unfold Z0
  refine (k1_pay1_ideal wg ws _ _ o).trans (Finset.sum_congr rfl fun j _ => ?_)
  exact congrArg (· * (wg (ix2 o j) + ws (ix2 o j))) (rowsOf_div_mod x n j)

/-- The first 10000 rows of the gathered sums as a matrix; the bias row as a vector. -/
def gOf (g : S10240x128.Idx → EReal) : Mat 10000 128 := fun n j => g (ix2 (⟨n.val, by omega⟩ : Fin 10240) j)
def bRow (b : S1x128.Idx → EReal) : Fin 128 → EReal := fun o => b (ix2 (0 : Fin 1) o)

/-- The bias as the program reshapes it, [128] to [1,128], is the bias. -/
theorem bRow_shapeCast (b : (⟨1, ![128]⟩ : Shape).Idx → EReal) (h : (⟨1, ![128]⟩ : Shape).ShapeCasts ⟨2, ![1, 128]⟩) :
    bRow (shapeCast ⟨2, ![1, 128]⟩ b h) = bOf b :=
  funext fun o => shapeCast_a_1a_apply b h 0 o

/-- The pre-activation and ELU of one entry, with `z` a first product and `g` the neighbour sums, is the layer. -/
theorem layer_entry (nb : Nbr) (h : Mat 10000 128) (Wg Wl Ws : Mat 128 128) (bb : Fin 128 → EReal)
    (z : EReal) (gs : Fin 128 → EReal) (n : Fin 10000) (o : Fin 128)
    (hz : z = ∑ j : Fin 128, h n j * (Wg o j + Ws o j)) (hg : ∀ j, gs j = agg nb h n j) :
    eluKer ((z + ∑ j : Fin 128, gs j * (Wl o j * inv32)) + bb o) = layerKer nb h Wg Wl Ws bb n o := by
  unfold layerKer
  rw [hz]
  simp only [hg]

/-- The activations, entry by entry. -/
theorem H1_ideal (z : FVec Ideal S10000x128 .f32) (g : FVec Ideal S10240x128 .f32) (wl : FVec Ideal S128x128 .f32) (b : FVec Ideal S1x128 .f32)
    (n : Fin 10000) (o : Fin 128) :
    H1 (F := Ideal) z g wl b (ix2 n o)
      = eluKer ((z (ix2 n o) + ∑ j : Fin 128, gOf g n j * (wl (ix2 o j) * inv32)) + bRow b o) := by
  unfold H1
  refine (k2_pay1_ideal _ _ wl b _ o).trans ?_
  unfold gOf bRow
  rw [rowsOf_div_mod]
  simp only [rowsOfG_div_mod]
theorem H2_ideal (z : FVec Ideal S10000x128 .f32) (g : FVec Ideal S10240x128 .f32) (wl : FVec Ideal S128x128 .f32) (b : FVec Ideal S1x128 .f32)
    (n : Fin 10000) (o : Fin 128) :
    H2 (F := Ideal) z g wl b (ix2 n o)
      = eluKer ((z (ix2 n o) + ∑ j : Fin 128, gOf g n j * (wl (ix2 o j) * inv32)) + bRow b o) := by
  unfold H2
  refine (k4_pay1_ideal _ _ wl b _ o).trans ?_
  unfold gOf bRow
  rw [rowsOf_div_mod]
  simp only [rowsOfG_div_mod]
theorem H3_ideal (z : FVec Ideal S10000x128 .f32) (g : FVec Ideal S10240x128 .f32) (wl : FVec Ideal S128x128 .f32) (b : FVec Ideal S1x128 .f32)
    (n : Fin 10000) (o : Fin 128) :
    H3 (F := Ideal) z g wl b (ix2 n o)
      = eluKer ((z (ix2 n o) + ∑ j : Fin 128, gOf g n j * (wl (ix2 o j) * inv32)) + bRow b o) := by
  unfold H3
  refine (k6_pay1_ideal _ _ wl b _ o).trans ?_
  unfold gOf bRow
  rw [rowsOf_div_mod]
  simp only [rowsOfG_div_mod]

/-- The fused regions' second result: the next layer's first product of the activation. -/
theorem ZN1_ideal (z : FVec Ideal S10000x128 .f32) (g : FVec Ideal S10240x128 .f32) (wl : FVec Ideal S128x128 .f32) (b : FVec Ideal S1x128 .f32)
    (wg ws : FVec Ideal S128x128 .f32) (n : Fin 10000) (o : Fin 128) :
    ZN1 (F := Ideal) z g wl b wg ws (ix2 n o) = ∑ j : Fin 128, H1 (F := Ideal) z g wl b (ix2 n j) * (wg (ix2 o j) + ws (ix2 o j)) := by
  unfold ZN1 H1
  exact k2_pay2_ideal _ _ wl b wg ws _ o
theorem ZN2_ideal (z : FVec Ideal S10000x128 .f32) (g : FVec Ideal S10240x128 .f32) (wl : FVec Ideal S128x128 .f32) (b : FVec Ideal S1x128 .f32)
    (wg ws : FVec Ideal S128x128 .f32) (n : Fin 10000) (o : Fin 128) :
    ZN2 (F := Ideal) z g wl b wg ws (ix2 n o) = ∑ j : Fin 128, H2 (F := Ideal) z g wl b (ix2 n j) * (wg (ix2 o j) + ws (ix2 o j)) := by
  unfold ZN2 H2
  exact k4_pay2_ideal _ _ wl b wg ws _ o

/-- ONE LAYER: an activation whose `z` is the first product of `h` and whose `g` holds `h`'s neighbour sums is the
    specification's layer of `h`. Stated for any function with the activation's entries (`H1`, `H2`, `H3`). -/
theorem layer_of (nb : Nbr) (h : FVec Ideal S10000x128 .f32) (wg wl ws : FVec Ideal S128x128 .f32) (b : FVec Ideal S1x128 .f32)
    (z : FVec Ideal S10000x128 .f32) (g : FVec Ideal S10240x128 .f32) (A : FVec Ideal S10000x128 .f32)
    (hA : ∀ n o, A (ix2 n o) = eluKer ((z (ix2 n o) + ∑ j : Fin 128, gOf g n j * (wl (ix2 o j) * inv32)) + bRow b o))
    (hz : ∀ n o, z (ix2 n o) = ∑ j : Fin 128, h (ix2 n j) * (wg (ix2 o j) + ws (ix2 o j)))
    (hg : gOf g = agg nb (matOf h)) :
    matOf A = layerKer nb (matOf h) (wOf wg) (wOf wl) (wOf ws) (bRow b) :=
  funext fun n => funext fun o => by
    show A (ix2 n o) = _
    rw [hA n o]
    exact layer_entry nb (matOf h) (wOf wg) (wOf wl) (wOf ws) (bRow b) _ _ n o (hz n o) (fun j => congrFun (congrFun hg n) j)

/-- The three layers from the regions' functions: with `g₀`, `g₁`, `g₂` the neighbour sums of `x`, of the first and of
    the second activation, the last region's result is the network in the kernel's order. -/
theorem net_of (nb : Nbr) (x : FVec Ideal S10000x128 .f32)
    (wg0 wl0 ws0 wg1 wl1 ws1 wg2 wl2 ws2 : FVec Ideal S128x128 .f32) (b0 b1 b2 : FVec Ideal S1x128 .f32)
    (g0 g1 g2 : FVec Ideal S10240x128 .f32)
    (hg0 : gOf g0 = agg nb (matOf x))
    (hg1 : gOf g1 = agg nb (matOf (H1 (F := Ideal) (Z0 (F := Ideal) x wg0 ws0) g0 wl0 b0)))
    (hg2 : gOf g2 = agg nb (matOf (H2 (F := Ideal) (ZN1 (F := Ideal) (Z0 (F := Ideal) x wg0 ws0) g0 wl0 b0 wg1 ws1) g1 wl1 b1))) :
    matOf (H3 (F := Ideal) (ZN2 (F := Ideal) (ZN1 (F := Ideal) (Z0 (F := Ideal) x wg0 ws0) g0 wl0 b0 wg1 ws1) g1 wl1 b1 wg2 ws2) g2 wl2 b2)
      = netKer nb (matOf x) (wOf wg0) (wOf wl0) (wOf ws0) (bRow b0) (wOf wg1) (wOf wl1) (wOf ws1) (bRow b1)
          (wOf wg2) (wOf wl2) (wOf ws2) (bRow b2) := by
  unfold netKer
  have h1 := layer_of nb x wg0 wl0 ws0 b0 (Z0 (F := Ideal) x wg0 ws0) g0 _ (H1_ideal _ g0 wl0 b0) (Z0_ideal x wg0 ws0) hg0
  have h2 := layer_of nb (H1 (F := Ideal) (Z0 (F := Ideal) x wg0 ws0) g0 wl0 b0) wg1 wl1 ws1 b1 (ZN1 (F := Ideal) (Z0 (F := Ideal) x wg0 ws0) g0 wl0 b0 wg1 ws1) g1 _
    (H2_ideal _ g1 wl1 b1) (ZN1_ideal _ g0 wl0 b0 wg1 ws1) hg1
  have h3 := layer_of nb (H2 (F := Ideal) (ZN1 (F := Ideal) (Z0 (F := Ideal) x wg0 ws0) g0 wl0 b0 wg1 ws1) g1 wl1 b1) wg2 wl2 ws2 b2
    (ZN2 (F := Ideal) (ZN1 (F := Ideal) (Z0 (F := Ideal) x wg0 ws0) g0 wl0 b0 wg1 ws1) g1 wl1 b1 wg2 ws2) g2 _
    (H3_ideal _ g2 wl2 b2) (ZN2_ideal _ g1 wl1 b1 wg2 ws2) hg2
  rw [h3, h2, h1]

end Cert.KernelIdeal.Regions

end
-- ==== Proof.LibScatterSet.lean ====
/-
  A scatter that OVERWRITES, read at an index.

  The scatter is a left fold over the update indices: each update whose landing index is inside the operand
  replaces the element there.  At a fixed operand index the fold's value is therefore the operand's own element
  when no update lands there, and otherwise the element of an update that lands there; when all updates landing
  there carry the same element, that element.
-/
import Idealize.ShloMosaic.PureOps

namespace Cert.ScatterSet

open Idealize.ShloMosaic

/-- A fold of "replace the element at the landing index" steps, read at one index. -/
theorem foldl_set_apply {ι κ α : Type} [DecidableEq ι] (g : κ → Option ι) (val : κ → α)
    (step : (ι → α) → κ → (ι → α))
    (hs : ∀ r n i, g n = some i → step r n = fun i'' => if i'' = i then val n else r i'')
    (hn : ∀ r n, g n = none → step r n = r) (i' : ι) (v : α) :
    ∀ (l : List κ) (r : ι → α), (∀ n ∈ l, g n = some i' → val n = v) →
      ((∃ n ∈ l, g n = some i') ∧ l.foldl step r i' = v) ∨ ((∀ n ∈ l, g n ≠ some i') ∧ l.foldl step r i' = r i')
  | [], r, _ => Or.inr ⟨(fun n hn' => nomatch hn'), rfl⟩
  | a :: l, r, h => by
    rw [List.foldl_cons]
    rcases foldl_set_apply g val step hs hn i' v l (step r a) (fun n hn' => h n (List.mem_cons_of_mem _ hn')) with
      ⟨⟨n, hn1, hn2⟩, hv⟩ | ⟨hmiss, hv⟩
    · exact Or.inl ⟨⟨n, List.mem_cons_of_mem _ hn1, hn2⟩, hv⟩
    · cases hga : g a with
      | none =>
        refine Or.inr ⟨fun n hn' => ?_, hv.trans (by rw [hn r a hga])⟩
        rcases List.mem_cons.1 hn' with rfl | hn'
        · rw [hga]; exact fun hh => nomatch hh
        · exact hmiss n hn'
      | some i =>
        by_cases hi : i' = i
        · subst hi
          exact Or.inl ⟨⟨a, List.mem_cons_self, hga⟩,
            hv.trans ((congrFun (hs r a i' hga) i').trans ((if_pos rfl).trans (h a List.mem_cons_self hga)))⟩
        · refine Or.inr ⟨fun n hn' => ?_, ?_⟩
          · rcases List.mem_cons.1 hn' with rfl | hn'
            · rw [hga]; exact fun hh => hi (Option.some.inj hh).symm
            · exact hmiss n hn'
          · exact hv.trans ((congrFun (hs r a i hga) i').trans (if_neg hi))

variable {s si u : Shape} {w : Nat} {α : Type}

/-- One step of an overwriting scatter: update `n` replaces the element at its landing index, if it has one. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

theorem step_some (d : ScatterDims s si u) (idx : IVec si w) (upd : u.Idx → α) (r : s.Idx → α) (n : Fin u.numel) (i : s.Idx)
    (hg : d.resultIdx? (u.rowMajor.symm n) idx = some i) :
    step d idx upd r n = fun i'' => if i'' = i then upd (u.rowMajor.symm n) else r i'' := by
  unfold step; rw [hg]

theorem step_none (d : ScatterDims s si u) (idx : IVec si w) (upd : u.Idx → α) (r : s.Idx → α) (n : Fin u.numel)
    (hg : d.resultIdx? (u.rowMajor.symm n) idx = none) : step d idx upd r n = r := by
  unfold step; rw [hg]

/-- An overwriting scatter at an index where an update lands, all updates landing there carrying one element. -/
theorem scatter_set_hit (d : ScatterDims s si u) (x : s.Idx → α) (idx : IVec si w) (upd : u.Idx → α) (i' : s.Idx)
    (j0 : u.Idx) (h0 : d.resultIdx? j0 idx = some i') (hall : ∀ j, d.resultIdx? j idx = some i' → upd j = upd j0) :
    Host.scatter d (fun _ b => b) x idx upd i' = upd j0 := by
  rw [scatter_eq_foldl]
  rcases foldl_set_apply (fun n : Fin u.numel => d.resultIdx? (u.rowMajor.symm n) idx) (fun n => upd (u.rowMajor.symm n))
      (step d idx upd) (fun r n i hg => step_some d idx upd r n i hg) (fun r n hg => step_none d idx upd r n hg) i' (upd j0)
      (List.finRange u.numel) x (fun n _ hg => hall _ hg) with ⟨_, hv⟩ | ⟨hmiss, _⟩
  · exact hv
  · exact absurd (show d.resultIdx? (u.rowMajor.symm (u.rowMajor j0)) idx = some i' by rw [Equiv.symm_apply_apply]; exact h0)
      (hmiss (u.rowMajor j0) (List.mem_finRange _))

/-- An overwriting scatter at an index where no update lands keeps the operand's element. -/
theorem scatter_set_miss (d : ScatterDims s si u) (x : s.Idx → α) (idx : IVec si w) (upd : u.Idx → α) (i' : s.Idx)
    (hmiss : ∀ j, d.resultIdx? j idx ≠ some i') :
    Host.scatter d (fun _ b => b) x idx upd i' = x i' := by
  rw [scatter_eq_foldl]
  rcases foldl_set_apply (fun n : Fin u.numel => d.resultIdx? (u.rowMajor.symm n) idx) (fun n => upd (u.rowMajor.symm n))
      (step d idx upd) (fun r n i hg => step_some d idx upd r n i hg) (fun r n hg => step_none d idx upd r n hg) i' (x i')
      (List.finRange u.numel) x (fun n _ hg => absurd hg (hmiss _)) with ⟨⟨n, _, hg⟩, _⟩ | ⟨_, hv⟩
  · exact absurd hg (hmiss _)
  · exact hv

end Cert.ScatterSet
-- ==== Proof.TreeSum.lean ====
/-
  The balanced pairwise sum of thirty-two arrays.

  Level 1 adds neighbours (v0+v1, v2+v3, …, v30+v31), level 2 adds neighbouring results, and so on for five
  levels.  Over the extended reals the entrywise sum is addition, which is commutative and associative, so the
  tree's value at an index is the plain sum of the thirty-two entries at that index.
-/
import Idealize.ShloMosaic.PureOps.Ideal

noncomputable section

namespace Cert.TreeSum

open Idealize.ShloMosaic
open scoped BigOperators

/-- The five-level balanced tree of entrywise sums. -/
def treeSum32 {F : FTy → Type} [FloatOps F] {s : Shape} (v : Fin 32 → FVec F s .f32) : FVec F s .f32 :=
  addf (addf (addf (addf (addf (v 0) (v 1)) (addf (v 2) (v 3))) (addf (addf (v 4) (v 5)) (addf (v 6) (v 7)))) (addf (addf (addf (v 8) (v 9)) (addf (v 10) (v 11))) (addf (addf (v 12) (v 13)) (addf (v 14) (v 15))))) (addf (addf (addf (addf (v 16) (v 17)) (addf (v 18) (v 19))) (addf (addf (v 20) (v 21)) (addf (v 22) (v 23)))) (addf (addf (addf (v 24) (v 25)) (addf (v 26) (v 27))) (addf (addf (v 28) (v 29)) (addf (v 30) (v 31)))))

/-- A sum over thirty-two indices, written out. -/
theorem sum32 {M : Type*} [AddCommMonoid M] (g : Fin 32 → M) :
    ∑ k : Fin 32, g k = (g 0 + (g 1 + (g 2 + (g 3 + (g 4 + (g 5 + (g 6 + (g 7 + (g 8 + (g 9 + (g 10 + (g 11 + (g 12 + (g 13 + (g 14 + (g 15 + (g 16 + (g 17 + (g 18 + (g 19 + (g 20 + (g 21 + (g 22 + (g 23 + (g 24 + (g 25 + (g 26 + (g 27 + (g 28 + (g 29 + (g 30 + (g 31 + 0)))))))))))))))))))))))))))))))) := by
  simp only [Fin.sum_univ_succ, Fin.sum_univ_zero]
  rfl

/-- Over the extended reals the tree's value at an index is the sum of the thirty-two entries there. -/
theorem treeSum32_apply {s : Shape} (v : Fin 32 → FVec Ideal s .f32) (i : s.Idx) :
    treeSum32 (F := Ideal) v i = ∑ k : Fin 32, (v k i : EReal) := by
  rw [sum32 (fun k => (v k i : EReal))]
  simp only [treeSum32, addf, Ideal.addf_def]
  abel

/-! ### The same tree on single values -/

/-- The five-level balanced tree of sums of thirty-two values: level 1 adds the values 2t and 2t+1, level 2 adds
    the level-1 results 2t and 2t+1, and so on. -/
def tree32' {F : FTy → Type} [FloatOps F] (v : Fin 32 → F .f32) : F .f32 :=
  let l1 : Fin 16 → F .f32 := fun t => FloatOps.addf (v ⟨2 * t.val, by omega⟩) (v ⟨2 * t.val + 1, by omega⟩)
  let l2 : Fin 8 → F .f32 := fun t => FloatOps.addf (l1 ⟨2 * t.val, by omega⟩) (l1 ⟨2 * t.val + 1, by omega⟩)
  let l3 : Fin 4 → F .f32 := fun t => FloatOps.addf (l2 ⟨2 * t.val, by omega⟩) (l2 ⟨2 * t.val + 1, by omega⟩)
  let l4 : Fin 2 → F .f32 := fun t => FloatOps.addf (l3 ⟨2 * t.val, by omega⟩) (l3 ⟨2 * t.val + 1, by omega⟩)
  FloatOps.addf (l4 0) (l4 1)

/-- The array tree at an index is the value tree of the entries at that index. -/
theorem treeSum32_eq_tree32' {F : FTy → Type} [FloatOps F] {s : Shape} (v : Fin 32 → FVec F s .f32) (i : s.Idx) :
    treeSum32 v i = tree32' fun k => v k i := rfl

/-- Over the extended reals the value tree is the sum of the thirty-two values. -/
theorem tree32'_eq_sum (v : Fin 32 → EReal) : tree32' (F := Ideal) (v : Fin 32 → Ideal .f32) = ∑ k : Fin 32, v k := by
  rw [sum32 v]
  show (((((v 0 + v 1) + (v 2 + v 3)) + ((v 4 + v 5) + (v 6 + v 7))) + (((v 8 + v 9) + (v 10 + v 11)) + ((v 12 + v 13) + (v 14 + v 15)))) + ((((v 16 + v 17) + (v 18 + v 19)) + ((v 20 + v 21) + (v 22 + v 23))) + (((v 24 + v 25) + (v 26 + v 27)) + ((v 28 + v 29) + (v 30 + v 31))))) = _
  abel

end Cert.TreeSum

end
-- ==== Proof.IdxGlue.lean ====
/-
  The kernel's index table, read at the entries a worker uses.

  The padded index table has 32 rows (one per worker) of 10496 words.  Worker w's entry 32·r + k (r < 320, k < 32)
  is word (320·w + r)·32 + k of the edge array's row 1 when node n = 320·w + r is a real node (n < 10000), and 0
  on the padding.  So for a real node the entry, reduced below 10000, is the node's k-th neighbour, and the sum
  over k of the table rows these entries name is the node's neighbour sum.  Every node n < 10000 is 320·w + r for
  w = n / 320 and r = n % 320.
-/
import proofs.«205366_g3083786518796_cont_9to1_852_38_alg».proof.Proof.SpecIdx
import proofs.«205366_g3083786518796_cont_9to1_852_38_alg».proof.Proof.TreeSum

noncomputable section

namespace Cert.IdxGlue

open Idealize.ShloMosaic ValueIdx Cert.SpecIdx Cert.TreeSum
open scoped BigOperators

/-- What the host glue makes of the edge array: worker `w`'s entry `32·r + k`. -/
def GlueRel (e : (⟨2, ![2, 320000]⟩ : Shape).Idx → BitVec 32) (I : (⟨2, ![32, 10496]⟩ : Shape).Idx → BitVec 32) : Prop :=
  ∀ (w : Fin 32) (r : Fin 320) (k : Fin 32),
    I (ix2 w ⟨32 * r.val + k.val, by omega⟩)
      = if h : 320 * w.val + r.val < 10000 then e (ix2 (1 : Fin 2) ⟨(320 * w.val + r.val) * 32 + k.val, by omega⟩) else 0#32

/-- At a real node the entry, reduced below 10000, is the node's `k`-th neighbour. -/
theorem entry_eq_nbOf (e : (⟨2, ![2, 320000]⟩ : Shape).Idx → BitVec 32) (I : (⟨2, ![32, 10496]⟩ : Shape).Idx → BitVec 32)
    (hI : GlueRel e I) (w : Fin 32) (r : Fin 320) (k : Fin 32) (hn : 320 * w.val + r.val < 10000) :
    (I (ix2 w ⟨32 * r.val + k.val, by omega⟩)).toNat % 10000 = (nbOf e ⟨320 * w.val + r.val, hn⟩ k).val := by
  rw [hI w r k, dif_pos hn]
  rfl

/-- The same as an equality of nodes. -/
theorem entry_fin_eq_nbOf (e : (⟨2, ![2, 320000]⟩ : Shape).Idx → BitVec 32) (I : (⟨2, ![32, 10496]⟩ : Shape).Idx → BitVec 32)
    (hI : GlueRel e I) (w : Fin 32) (r : Fin 320) (k : Fin 32) (hn : 320 * w.val + r.val < 10000) :
    (⟨(I (ix2 w ⟨32 * r.val + k.val, by omega⟩)).toNat % 10000, Nat.mod_lt _ (by decide)⟩ : Fin 10000)
      = nbOf e ⟨320 * w.val + r.val, hn⟩ k :=
  Fin.ext (entry_eq_nbOf e I hI w r k hn)

/-- A worker's output row at a real node is the node's neighbour sum: the tree of additions over the extended reals
    is the sum, and the entries name the neighbours. -/
theorem out_eq_agg (e : (⟨2, ![2, 320000]⟩ : Shape).Idx → BitVec 32) (I : (⟨2, ![32, 10496]⟩ : Shape).Idx → BitVec 32)
    (Tc : (⟨2, ![10000, 128]⟩ : Shape).Idx → EReal) (O : (⟨2, ![10240, 128]⟩ : Shape).Idx → EReal) (hI : GlueRel e I)
    (w : Fin 32)
    (hS : ∀ (r : Fin 320) (j : Fin 128),
      O (ix2 ⟨320 * w.val + r.val, by omega⟩ j)
        = tree32' (F := Ideal) fun k : Fin 32 =>
            Tc (ix2 ⟨(I (ix2 w ⟨32 * r.val + k.val, by omega⟩)).toNat % 10000, Nat.mod_lt _ (by decide)⟩ j))
    (r : Fin 320) (j : Fin 128) (hn : 320 * w.val + r.val < 10000) :
    O (ix2 ⟨320 * w.val + r.val, by omega⟩ j) = Cert.Spec.agg (nbOf e) (matOf Tc) ⟨320 * w.val + r.val, hn⟩ j := by
  rw [hS r j, tree32'_eq_sum]
  unfold Cert.Spec.agg matOf
  refine Finset.sum_congr rfl fun k _ => ?_
  rw [entry_fin_eq_nbOf e I hI w r k hn]

/-- Every real node's output row is its neighbour sum, when every worker's rows are the tree sums. -/
theorem out_eq_agg_node (e : (⟨2, ![2, 320000]⟩ : Shape).Idx → BitVec 32) (I : (⟨2, ![32, 10496]⟩ : Shape).Idx → BitVec 32)
    (Tc : (⟨2, ![10000, 128]⟩ : Shape).Idx → EReal) (O : (⟨2, ![10240, 128]⟩ : Shape).Idx → EReal) (hI : GlueRel e I)
    (hS : ∀ (w : Fin 32) (r : Fin 320) (j : Fin 128),
      O (ix2 ⟨320 * w.val + r.val, by omega⟩ j)
        = tree32' (F := Ideal) fun k : Fin 32 =>
            Tc (ix2 ⟨(I (ix2 w ⟨32 * r.val + k.val, by omega⟩)).toNat % 10000, Nat.mod_lt _ (by decide)⟩ j))
    (n : Fin 10000) (j : Fin 128) :
    O (ix2 ⟨n.val, by omega⟩ j) = Cert.Spec.agg (nbOf e) (matOf Tc) n j := by
  have hw : n.val / 320 < 32 := by omega
  have hr : n.val % 320 < 320 := Nat.mod_lt _ (by decide)
  have hn : 320 * (n.val / 320) + n.val % 320 = n.val := Nat.div_add_mod n.val 320
  have key := out_eq_agg e I Tc O hI ⟨n.val / 320, hw⟩ (hS ⟨n.val / 320, hw⟩) ⟨n.val % 320, hr⟩ j (by show 320 * (n.val / 320) + n.val % 320 < 10000; omega)
  have e1 : (⟨320 * (n.val / 320) + n.val % 320, by omega⟩ : Fin 10240) = ⟨n.val, by omega⟩ := Fin.ext hn
  have e2 : (⟨320 * (n.val / 320) + n.val % 320, by omega⟩ : Fin 10000) = n := Fin.ext hn
  simp only [] at key
  rw [e1, e2] at key
  exact key

end Cert.IdxGlue

end
-- ==== Proof.IdxLayout.lean ====
/-
  The kernel's padded index table, entry by entry.

  The table is built from the edge array by layout operations only: row 1 of the [2,320000] array, flattened;
  followed by 7680 zeros; viewed as [32,10240]; written into columns 0 … 10239 of a [32,10496] array of zeros by a
  scatter with the one start index 0.  Each operation read at an index is its operand at one index: a slice shifts
  by its offsets, a shape cast keeps the row-major position, a concatenation falls in the first piece below its
  extent and in the second past it, and the overwriting scatter replaces exactly the entries its window covers.
  So entry (w, c) is word 10240·w + c of the edge row where c < 10240 and that position is below 320000, else 0.
-/
import proofs.«205366_g3083786518796_cont_9to1_852_38_alg».proof.Proof.LibScatterSet
import proofs.«205366_g3083786518796_cont_9to1_852_38_alg».proof.Proof.IdxGlue
import Idealize.ShloMosaic.Lib.ValueIdx
import Idealize.ShloMosaic.Lib.Pipeline.Value

namespace Cert.IdxLayout

open Idealize.ShloMosaic ValueIdx

abbrev S2x320000 : Shape := ⟨2, ![2, 320000]⟩
abbrev S1x320000 : Shape := ⟨2, ![1, 320000]⟩
abbrev S320000 : Shape := ⟨1, ![320000]⟩
abbrev S_ : Shape := ⟨0, ![]⟩
abbrev S7680 : Shape := ⟨1, ![7680]⟩
abbrev S327680 : Shape := ⟨1, ![327680]⟩
abbrev S32x10240 : Shape := ⟨2, ![32, 10240]⟩
abbrev S32x10496 : Shape := ⟨2, ![32, 10496]⟩
abbrev S1 : Shape := ⟨1, ![1]⟩

variable {α : Type}

/-! ### The layout operations at an index -/

/-- The [32,10240] view of a [327680] array: entry (w, c) is entry 10240·w + c. -/
theorem cast_rows (h : S327680.ShapeCasts S32x10240) (v : S327680.Idx → α) (w : Fin 32) (c : Fin 10240) :
    shapeCast S32x10240 v h (ix2 w c) = v (ix1 ⟨10240 * w.val + c.val, by omega⟩) := by
  refine shapeCast_apply v _ (ix2 w c) (ix1 ⟨10240 * w.val + c.val, by omega⟩) ?_
  rw [Shape.rowMajor_val_one, Shape.rowMajor_val_two]
  show 10240 * w.val + c.val = w.val * 10240 + c.val
  omega

/-- The [320000] array followed by the [7680] array, at a position. -/
theorem concat_at (h : Shape.Concatenates [S320000, S7680] S327680 0) (v1 : S320000.Idx → α) (v2 : S7680.Idx → α)
    (p : Fin 327680) :
    concatenate S327680 0 [⟨S320000, v1⟩, ⟨S7680, v2⟩] h (ix1 p)
      = if hp : p.val < 320000 then v1 (ix1 ⟨p.val, hp⟩) else v2 (ix1 ⟨p.val - 320000, by omega⟩) := by
  by_cases hp : p.val < 320000
  · rw [dif_pos hp]
    refine concatenate_pair_apply_left (0 : Fin 1) v1 v2 _ (ix1 p) rfl (ix1 ⟨p.val, hp⟩) fun b => ?_
    match b with
    | ⟨0, _⟩ => rfl
  · rw [dif_neg hp]
    refine concatenate_pair_apply_right (0 : Fin 1) v1 v2 _ (ix1 p) rfl rfl (ix1 ⟨p.val - 320000, by omega⟩) (fun b hb => ?_) ?_
    · match b with
      | ⟨0, _⟩ => exact absurd rfl hb
    · show p.val - 320000 + 320000 = p.val
      omega

/-- The [320000] view of a [1,320000] array. -/
theorem cast_flat (h : S1x320000.ShapeCasts S320000) (v : S1x320000.Idx → α) (p : Fin 320000) :
    shapeCast S320000 v h (ix1 p) = v (ix2 (0 : Fin 1) p) := by
  refine shapeCast_apply v _ (ix1 p) (ix2 (0 : Fin 1) p) ?_
  rw [Shape.rowMajor_val_one, Shape.rowMajor_val_two]
  show 0 * 320000 + p.val = p.val
  omega

/-- Row 1 of the [2,320000] array. -/
theorem slice_row1 (h : S2x320000.Slices ![1, 0] S1x320000) (e : S2x320000.Idx → α) (p : Fin 320000) :
    extractStridedSlice S1x320000 ![1, 0] e h (ix2 (0 : Fin 1) p) = e (ix2 (1 : Fin 2) p) := by
  refine extractStridedSlice_apply _ e _ (ix2 (0 : Fin 1) p) (ix2 (1 : Fin 2) p) fun a => ?_
  match a with
  | ⟨0, _⟩ => rfl
  | ⟨1, _⟩ => show p.val = 0 + p.val; omega

/-! ### The scatter into columns 0 … 10239 -/

/-- The scatter's dimension numbers: the update is one [32,10240] window, started on axis 1 at the one index word. -/
def dOf (hwf : ScatterDims.WF S32x10496 S1 S32x10240 [0, 1] [] [1] 0) : ScatterDims S32x10496 S1 S32x10240 where
  updateWindowDims := [0, 1]
  insertedWindowDims := []
  scatterDimsToOperandDims := [1]
  indexVectorDim := 0
  wf := hwf

variable (hwf : ScatterDims.WF S32x10496 S1 S32x10240 [0, 1] [] [1] 0)

theorem start_zero (j : S32x10240.Idx) (idx : IVec S1 32) (hidx : ∀ i, idx i = 0#32) (a : Fin 2) :
    (dOf hwf).start j idx a = 0 := by
  unfold ScatterDims.start
  split
  · rw [hidx]; rfl
  · rfl

/-- With the start index 0, update entry (w, c) lands at (w, c). -/
theorem resultIdx_eq (j : S32x10240.Idx) (idx : IVec S1 32) (hidx : ∀ i, idx i = 0#32) :
    (dOf hwf).resultIdx? j idx = some (ix2 (j 0) ⟨(j 1).val, by have := idx2_lt1 j; omega⟩) := by
  have hb : ∀ a : Fin 2, 0 ≤ (dOf hwf).start j idx a + (dOf hwf).window j a
      ∧ (dOf hwf).start j idx a + (dOf hwf).window j a < S32x10496.size a := by
    intro a
    rw [start_zero hwf j idx hidx a]
    match a with
    | ⟨0, _⟩ =>
      rw [show (dOf hwf).window j ⟨0, by decide⟩ = (j 0).val from rfl]; have := idx2_lt0 j
      show (0:Int) ≤ 0 + ((j 0).val : Int) ∧ (0:Int) + ((j 0).val : Int) < (32 : Nat); omega
    | ⟨1, _⟩ =>
      rw [show (dOf hwf).window j ⟨1, by decide⟩ = (j 1).val from rfl]; have := idx2_lt1 j
      show (0:Int) ≤ 0 + ((j 1).val : Int) ∧ (0:Int) + ((j 1).val : Int) < (10496 : Nat); omega
  unfold ScatterDims.resultIdx?
  rw [dif_pos hb]
  congr 1
  funext a
  apply Fin.ext
  show ((dOf hwf).start j idx a + (dOf hwf).window j a).toNat = _
  rw [start_zero hwf j idx hidx a]
  match a with
  | ⟨0, _⟩ => show (0 + ((j 0).val : Int)).toNat = (j 0).val; omega
  | ⟨1, _⟩ => show (0 + ((j 1).val : Int)).toNat = (j 1).val; omega

/-- The scatter at entry (w, c): the update's entry where c < 10240, the operand's elsewhere. -/
theorem scatter_cols (x : S32x10496.Idx → α) (idx : IVec S1 32) (hidx : ∀ i, idx i = 0#32) (upd : S32x10240.Idx → α)
    (w : Fin 32) (c : Fin 10496) :
    Host.scatter (dOf hwf) (fun _ b => b) x idx upd (ix2 w c)
      = if hc : c.val < 10240 then upd (ix2 w ⟨c.val, hc⟩) else x (ix2 w c) := by
  by_cases hc : c.val < 10240
  · rw [dif_pos hc]
    refine Cert.ScatterSet.scatter_set_hit (dOf hwf) x idx upd (ix2 w c) (ix2 w ⟨c.val, hc⟩) ?_ fun j hj => ?_
    · exact (resultIdx_eq hwf _ idx hidx).trans rfl
    · rw [resultIdx_eq hwf j idx hidx] at hj
      have hj' := Option.some.inj hj
      have h0 : j 0 = w := congrFun hj' 0
      have h1 : (j 1).val = c.val := congrArg Fin.val (congrFun hj' 1)
      have hjeq : j = ix2 w ⟨c.val, hc⟩ := by
        funext a
        match a with
        | ⟨0, _⟩ => exact h0
        | ⟨1, _⟩ => exact Fin.ext h1
      rw [hjeq]
  · rw [dif_neg hc]
    refine Cert.ScatterSet.scatter_set_miss (dOf hwf) x idx upd (ix2 w c) fun j hj => ?_
    rw [resultIdx_eq hwf j idx hidx] at hj
    have h1 : (j 1).val = c.val := congrArg Fin.val (congrFun (Option.some.inj hj) 1)
    have := idx2_lt1 j
    omega

/-! ### The whole table -/

variable (hsl : S2x320000.Slices ![1, 0] S1x320000) (hc1 : S1x320000.ShapeCasts S320000)
  (hb7 : S_.BroadcastsInDim S7680 (![] : Fin 0 → Fin S7680.rank)) (hcat : Shape.Concatenates [S320000, S7680] S327680 0)
  (hc2 : S327680.ShapeCasts S32x10240) (hbI : S_.BroadcastsInDim S32x10496 (![] : Fin 0 → Fin S32x10496.rank))
  (hb1 : S_.BroadcastsInDim S1 (![] : Fin 0 → Fin S1.rank))

/-- The index table as the host operations build it from the edge array. -/
def idxOf (e : IVec S2x320000 32) : IVec S32x10496 32 :=
  Host.scatter (dOf hwf) (fun _ b => b) (broadcastInDim S32x10496 ![] hbI (constantI S_ 32 0#32))
    (broadcastInDim S1 ![] hb1 (constantI S_ 32 0#32))
    (shapeCast S32x10240
      (concatenate S327680 0
        [⟨S320000, shapeCast S320000 (extractStridedSlice S1x320000 ![1, 0] e hsl) hc1⟩,
          ⟨S7680, broadcastInDim S7680 ![] hb7 (constantI S_ 32 0#32)⟩] hcat) hc2)

/-- Entry (w, c) of the table. -/
theorem idxOf_apply (e : IVec S2x320000 32) (w : Fin 32) (c : Fin 10496) :
    idxOf hwf hsl hc1 hb7 hcat hc2 hbI hb1 e (ix2 w c)
      = if hc : c.val < 10240 then
          (if hp : 10240 * w.val + c.val < 320000 then e (ix2 (1 : Fin 2) ⟨10240 * w.val + c.val, hp⟩) else 0#32)
        else 0#32 := by
  unfold idxOf
  rw [scatter_cols hwf _ (broadcastInDim S1 ![] hb1 (constantI S_ 32 0#32)) (fun _ => rfl)]
  by_cases hc : c.val < 10240
  · rw [dif_pos hc, dif_pos hc, cast_rows hc2 _ w ⟨c.val, hc⟩, concat_at hcat]
    by_cases hp : 10240 * w.val + c.val < 320000
    · rw [dif_pos hp, dif_pos hp, cast_flat hc1, slice_row1 hsl]
    · rw [dif_neg hp, dif_neg hp]; rfl
  · rw [dif_neg hc, dif_neg hc]; rfl

/-- The table is the edge array's row 1 laid out worker by worker. -/
theorem glue (e : IVec S2x320000 32) : Cert.IdxGlue.GlueRel e (idxOf hwf hsl hc1 hb7 hcat hc2 hbI hb1 e) := by
  intro w r k
  rw [idxOf_apply, dif_pos (show 32 * r.val + k.val < 10240 by omega)]
  by_cases hn : 320 * w.val + r.val < 10000
  · rw [dif_pos hn, dif_pos (show 10240 * w.val + (32 * r.val + k.val) < 320000 by omega)]
    congr 2
    apply Fin.ext
    show 10240 * w.val + (32 * r.val + k.val) = (320 * w.val + r.val) * 32 + k.val
    omega
  · rw [dif_neg hn, dif_neg (show ¬ 10240 * w.val + (32 * r.val + k.val) < 320000 by omega)]

/-- Every entry of the table names a node when every edge word does. -/
theorem idxOk (e : IVec S2x320000 32) (he : ∀ i, (e i).toNat < 10000) (w : Fin 32) (c : Fin 10496) :
    (idxOf hwf hsl hc1 hb7 hcat hc2 hbI hb1 e (ix2 w c)).toNat < 10000 := by
  rw [idxOf_apply]
  split
  · split
    · exact he _
    · decide
  · decide

end Cert.IdxLayout
-- ==== Proof.PreFacts.lean ====
/-
  What the input-domain predicate says of the argument arrays, read back.

  The predicate is a conjunction of fourteen "all entries satisfy ..." tests, each a reduction by `and` of an
  array of truth values into one word, and the hypothesis says the conjunction is 1.  A conjunction of words
  is 1 exactly when each word is 1; a reduction by `and` into one word that is 1 met only 1s.  For a float
  array the entry test is |v| < +∞ on the extended reals, and max v (−v) < ⊤ excludes v = ⊤ and v = ⊥, so v is
  a real number.  For the integer array the entry test is 0 ≤ e and e ≤ 9999, both signed.
-/
import proofs.«205366_g3083786518796_cont_9to1_852_38_alg».proof.Proof.Gen.Pre_input_domain
import proofs.«205366_g3083786518796_cont_9to1_852_38_alg».proof.Proof.SpecIdx
import Idealize.ShloMosaic.Lib.ReduceAll
import Idealize.ShloMosaic.Lib.ValueIdx

noncomputable section

namespace Cert.PreFacts

open Idealize.ShloMosaic Cert.Pre_input_domain

instance : Subsingleton S_.Idx := ⟨fun a b => funext fun d => d.elim0⟩

/-- The word 0x7F800000 denotes +∞. -/
theorem inf_eq_top : Ideal.ofBits .f32 0x7F800000#32 = (⊤ : EReal) := by simp [Ideal.ofBits, Ideal.ieee]

/-- An extended real whose absolute value is below +∞ is a real number. -/
theorem real_of_abs_lt_inf (v : EReal)
    (h : Ideal.cmp .olt (max v (-v)) (Ideal.ofBits .f32 0x7F800000#32) = 1#1) : ∃ r : ℝ, v = (r : EReal) := by
  rw [inf_eq_top] at h
  unfold Ideal.cmp at h
  induction v using EReal.rec with
  | bot => simp at h
  | coe r => exact ⟨r, rfl⟩
  | top => simp at h

/-- The entry test of a float array, at one index. -/
theorem real_of_test {s : Shape} (hb : S_.BroadcastsInDim s (![] : Fin 0 → Fin s.rank)) (a : FVec Ideal s .f32)
    (h : ∀ i, cmpf (F := Ideal) .olt (Host.absf (F := Ideal) a)
      (broadcastInDim s ![] hb (constant (F := Ideal) S_ .f32 0x7F800000#32)) i = 1#1) :
    ∀ i, ∃ r : ℝ, a i = (r : EReal) := fun i => real_of_abs_lt_inf (a i) (h i)

variable [Facts]
open Facts

/-- The hypothesis split into its fourteen entrywise statements (argument order 0, 2, 3, …, 13, then 1). -/
theorem core (a0 : FVec Ideal S10000x128 .f32) (a1 : IVec S2x320000 32)
    (a2 a3 a4 : FVec Ideal S128x128 .f32) (a5 : FVec Ideal S128 .f32)
    (a6 a7 a8 : FVec Ideal S128x128 .f32) (a9 : FVec Ideal S128 .f32)
    (a10 a11 a12 : FVec Ideal S128x128 .f32) (a13 : FVec Ideal S128 .f32)
    (h : fn (F := Ideal) a0 a1 a2 a3 a4 a5 a6 a7 a8 a9 a10 a11 a12 a13 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal))
      ∧ (∀ i, ∃ r : ℝ, a10 i = (r : EReal)) ∧ (∀ i, ∃ r : ℝ, a11 i = (r : EReal)) ∧ (∀ i, ∃ r : ℝ, a12 i = (r : EReal))
      ∧ (∀ i, ∃ r : ℝ, a13 i = (r : EReal)) ∧ (∀ i, (0 : Int) ≤ (a1 i).toInt ∧ (a1 i).toInt ≤ 9999) := by
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨e0, e2⟩, e3⟩, e4⟩, e5⟩, e6⟩, e7⟩, e8⟩, e9⟩, e10⟩, e11⟩, e12⟩, e13⟩, e1⟩ := h0
  refine ⟨real_of_test _ a0 (Host.reduce_andi_all _ _ _ _ _ e0), real_of_test _ a2 (Host.reduce_andi_all _ _ _ _ _ e2),
    real_of_test _ a3 (Host.reduce_andi_all _ _ _ _ _ e3), real_of_test _ a4 (Host.reduce_andi_all _ _ _ _ _ e4),
    real_of_test _ a5 (Host.reduce_andi_all _ _ _ _ _ e5), real_of_test _ a6 (Host.reduce_andi_all _ _ _ _ _ e6),
    real_of_test _ a7 (Host.reduce_andi_all _ _ _ _ _ e7), real_of_test _ a8 (Host.reduce_andi_all _ _ _ _ _ e8),
    real_of_test _ a9 (Host.reduce_andi_all _ _ _ _ _ e9), real_of_test _ a10 (Host.reduce_andi_all _ _ _ _ _ e10),
    real_of_test _ a11 (Host.reduce_andi_all _ _ _ _ _ e11), real_of_test _ a12 (Host.reduce_andi_all _ _ _ _ _ e12),
    real_of_test _ a13 (Host.reduce_andi_all _ _ _ _ _ e13), fun i => ?_⟩
  have hi := Host.reduce_andi_all _ _ _ _ _ e1 i
  change IntOp.andi (IntOp.cmpi .sge (a1 i) 0#32) (IntOp.cmpi .sle (a1 i) 9999#32) = 1#1 at hi
  rw [IntOp.andi_eq_one, IntOp.cmpi_sge, IntOp.cmpi_sle] at hi
  have z0 : (0#32 : BitVec 32).toInt = 0 := by decide
  have z1 : (9999#32 : BitVec 32).toInt = 9999 := by decide
  rw [z0, z1] at hi
  exact hi

/-- A word whose signed value lies in 0 … 9999 has that unsigned value too. -/
theorem toNat_lt_of_range (w : BitVec 32) (h : (0 : Int) ≤ w.toInt ∧ w.toInt ≤ 9999) :
    w.toNat < 10000 ∧ (w.toNat : Int) = w.toInt := by
  have hw := w.isLt
  rw [BitVec.toInt_eq_toNat_cond] at h ⊢
  split at h <;> rename_i hc
  · rw [if_pos hc]; omega
  · omega

/-! ### The same, as the specification's finiteness predicates -/

theorem finiteM_matOf (x : FVec Ideal S10000x128 .f32) (hx : ∀ i, ∃ r : ℝ, x i = (r : EReal)) :
    Cert.Spec.FiniteM (Cert.SpecIdx.matOf x) := fun n j => hx (ValueIdx.ix2 n j)

theorem finiteM_wOf (w : FVec Ideal S128x128 .f32) (hw : ∀ i, ∃ r : ℝ, w i = (r : EReal)) :
    Cert.Spec.FiniteM (Cert.SpecIdx.wOf w) := fun o j => hw (ValueIdx.ix2 o j)

theorem finiteV_bOf (b : FVec Ideal S128 .f32) (hb : ∀ i, ∃ r : ℝ, b i = (r : EReal)) :
    Cert.Spec.FiniteV (Cert.SpecIdx.bOf b) := fun o => hb (ValueIdx.ix1 o)

end Cert.PreFacts

end
-- ==== Proof.IdxTerm.lean ====
/-
  The index table the kernel's host operations build, as one term, and what its entries are.

  The term below is the composition of the program's first eleven host operations, each spelt as its line spells
  it.  It is the table of the layout module built with the program's own shape facts, so its entries are the edge
  array's row 1 laid out worker by worker, and every entry names a node when every edge word does.
-/
import proofs.«205366_g3083786518796_cont_9to1_852_38_alg».proof.Proof.Gen.KernelIdeal
import proofs.«205366_g3083786518796_cont_9to1_852_38_alg».proof.Proof.IdxLayout
import proofs.«205366_g3083786518796_cont_9to1_852_38_alg».proof.Proof.PreFacts

namespace Cert.KernelIdeal.IdxTerm

open Idealize.ShloMosaic ValueIdx Cert.KernelIdeal

variable [Facts]
open Facts₀ Facts

/-- The [32,10496] index table as a function of the edge array: slice row 1, flatten, append 7680 zeros, view as
    [32,10240], and write into columns 0 … 10239 of a zero [32,10496] array. -/
def idxTerm (e : IVec S2x320000 32) : IVec S32x10496 32 :=
  Host.scatter scatter_S32x10496_S1_S32x10240_01_n_1_0 (fun _ b => b)
    (broadcastInDim S32x10496 ![] bcast_S_S32x10496 (constantI S_ 32 0#32))
    (broadcastInDim S1 ![] bcast_S_S1 (constantI S_ 32 0#32))
    (shapeCast S32x10240
      (concatenate S327680 0
        [⟨S320000, shapeCast S320000 (extractStridedSlice S1x320000 ![1, 0] e slices_S2x320000_S1x320000_1_0)
            shapeCasts_S1x320000_S320000⟩,
          ⟨S7680, broadcastInDim S7680 ![] bcast_S_S7680 (constantI S_ 32 0#32)⟩]
        concatenates_S320000_S7680_S327680_d0)
      shapeCasts_S327680_S32x10240)

/-- The term is the layout module's table at the program's shape facts. -/
theorem idxTerm_eq (e : IVec S2x320000 32) :
    idxTerm e = Cert.IdxLayout.idxOf scatter_S32x10496_S1_S32x10240_01_n_1_0_wf slices_S2x320000_S1x320000_1_0
      shapeCasts_S1x320000_S320000 bcast_S_S7680 concatenates_S320000_S7680_S327680_d0 shapeCasts_S327680_S32x10240
      bcast_S_S32x10496 bcast_S_S1 e := rfl

/-- The table is the edge array's row 1 laid out worker by worker. -/
theorem glue (e : IVec S2x320000 32) : Cert.IdxGlue.GlueRel e (idxTerm e) := by
  rw [idxTerm_eq]
  exact Cert.IdxLayout.glue _ _ _ _ _ _ _ _ e

/-- Every entry of the table names a node when every edge word lies in 0 … 9999. -/
theorem idxOk (e : IVec S2x320000 32) (he : ∀ i, (0 : Int) ≤ (e i).toInt ∧ (e i).toInt ≤ 9999) :
    ∀ w : Fin 32, ∀ k : Fin 10496, ((idxTerm e) (ix2 w k)).toNat < 10000 := by
  intro w k
  rw [idxTerm_eq]
  exact Cert.IdxLayout.idxOk _ _ _ _ _ _ _ _ e (fun i => (Cert.PreFacts.toNat_lt_of_range _ (he i)).1) w k

end Cert.KernelIdeal.IdxTerm
-- ==== Proof.ScNames.lean ====
/-
  The contents the program computes, named: the index table, each SparseCore call's table, the neighbour sums, the
  TensorCore regions' results, as pure terms of the launch memory (generic in the float instance); and, at the
  extended reals, that the last of them is the three-layer network in the kernel's order.
-/
import proofs.«205366_g3083786518796_cont_9to1_852_38_alg».proof.Proof.GSum
import proofs.«205366_g3083786518796_cont_9to1_852_38_alg».proof.Proof.TcLayers
import proofs.«205366_g3083786518796_cont_9to1_852_38_alg».proof.Proof.IdxTerm

noncomputable section

namespace Cert.Proof.KI

open Cert.KernelIdeal Cert.KernelIdeal.Gen Cert.KernelIdeal.Regions
open Idealize.ShloMosaic Idealize.SL.Sem
open Idealize.ShloMosaic.ValueIdx

variable {F : FTy → Type} [FloatOps F]
variable (m : (ℓ : Loc nD τ sig) → Buf (Elt F) ℓ)

/-- The launch contents of a TensorCore array of device `d`. -/
abbrev argOf (d : Dev nD) (b : Ref sig .tc) : Buf (Elt F) (((SparseCore.T d : Thread nD τ)).loc b) := m ((SparseCore.T d : Thread nD τ).loc b)

/-- The padded index table the host operations lay out from row 1 of `edge`. -/
def IbOf (d : Dev nD) : S32x10496.Idx → BitVec 32 := Cert.KernelIdeal.IdxTerm.idxTerm (argOf m d main_arg1 : IVec S2x320000 32)

/-- The three biases as rows. -/
def B0of (d : Dev nD) : FVec F S1x128 .f32 := shapeCast S1x128 (argOf m d main_arg5 : FVec F S128 .f32) shapeCasts_S128_S1x128
def B1of (d : Dev nD) : FVec F S1x128 .f32 := shapeCast S1x128 (argOf m d main_arg9 : FVec F S128 .f32) shapeCasts_S128_S1x128
def B2of (d : Dev nD) : FVec F S1x128 .f32 := shapeCast S1x128 (argOf m d main_arg13 : FVec F S128 .f32) shapeCasts_S128_S1x128

/-- Layer by layer: the table of the call, its neighbour sums, the next first product. -/
def T0of (d : Dev nD) : S10000x128.Idx → F .f32 := (argOf m d main_arg0 : FVec F S10000x128 .f32)
def G0of (d : Dev nD) : S10240x128.Idx → F .f32 := gsumF (T0of m d) (IbOf m d)
def Z0of (d : Dev nD) : FVec F S10000x128 .f32 := Z0 (T0of m d) (argOf m d main_arg2 : FVec F S128x128 .f32) (argOf m d main_arg4 : FVec F S128x128 .f32)
def T1of (d : Dev nD) : S10000x128.Idx → F .f32 := H1 (Z0of m d) (G0of m d) (argOf m d main_arg3 : FVec F S128x128 .f32) (B0of m d)
def Z1of (d : Dev nD) : FVec F S10000x128 .f32 :=
  ZN1 (Z0of m d) (G0of m d) (argOf m d main_arg3 : FVec F S128x128 .f32) (B0of m d) (argOf m d main_arg6 : FVec F S128x128 .f32) (argOf m d main_arg8 : FVec F S128x128 .f32)
def G1of (d : Dev nD) : S10240x128.Idx → F .f32 := gsumF (T1of m d) (IbOf m d)
def T2of (d : Dev nD) : S10000x128.Idx → F .f32 := H2 (Z1of m d) (G1of m d) (argOf m d main_arg7 : FVec F S128x128 .f32) (B1of m d)
def Z2of (d : Dev nD) : FVec F S10000x128 .f32 :=
  ZN2 (Z1of m d) (G1of m d) (argOf m d main_arg7 : FVec F S128x128 .f32) (B1of m d) (argOf m d main_arg10 : FVec F S128x128 .f32) (argOf m d main_arg12 : FVec F S128x128 .f32)
def G2of (d : Dev nD) : S10240x128.Idx → F .f32 := gsumF (T2of m d) (IbOf m d)
/-- The program's result. -/
def ResOf (d : Dev nD) : S10000x128.Idx → F .f32 := H3 (Z2of m d) (G2of m d) (argOf m d main_arg11 : FVec F S128x128 .f32) (B2of m d)

/-- Call `q`'s table. -/
def TbOf : Fin 3 → Dev nD → S10000x128.Idx → F .f32 := fun q d => match q with | 0 => T0of m d | 1 => T1of m d | 2 => T2of m d

end Cert.Proof.KI

namespace Cert.Proof.KI

open Cert.KernelIdeal Cert.KernelIdeal.Regions Cert.Spec Cert.SpecIdx
open Idealize.ShloMosaic Idealize.SL.Sem
open Idealize.ShloMosaic.ValueIdx

/-- The SparseCore's sums over the laid-out index table are the neighbour sums of the specification. -/
theorem gOf_gsum (e : IVec S2x320000 32) (Tc : FVec Ideal S10000x128 .f32) :
    gOf (gsumF (F := Ideal) Tc (Cert.KernelIdeal.IdxTerm.idxTerm e)) = agg (nbOf e) (matOf Tc) :=
  funext fun n => funext fun j =>
    Cert.IdxGlue.out_eq_agg_node e (Cert.KernelIdeal.IdxTerm.idxTerm e) Tc (gsumF (F := Ideal) Tc (Cert.KernelIdeal.IdxTerm.idxTerm e))
      (Cert.KernelIdeal.IdxTerm.glue e) (fun w r j => gsumF_rel (F := Ideal) Tc _ w r j) n j

/-- At the extended reals the program's result is the network in the kernel's order. -/
theorem resOf_ideal (m : (ℓ : Loc nD τ sig) → Buf (Elt Ideal) ℓ) (d : Dev nD) :
    matOf (ResOf (F := Ideal) m d)
      = netKer (nbOf (argOf m d main_arg1 : IVec S2x320000 32)) (matOf (argOf m d main_arg0 : FVec Ideal S10000x128 .f32))
          (wOf (argOf m d main_arg2 : FVec Ideal S128x128 .f32)) (wOf (argOf m d main_arg3 : FVec Ideal S128x128 .f32)) (wOf (argOf m d main_arg4 : FVec Ideal S128x128 .f32)) (bOf (argOf m d main_arg5 : FVec Ideal S128 .f32))
          (wOf (argOf m d main_arg6 : FVec Ideal S128x128 .f32)) (wOf (argOf m d main_arg7 : FVec Ideal S128x128 .f32)) (wOf (argOf m d main_arg8 : FVec Ideal S128x128 .f32)) (bOf (argOf m d main_arg9 : FVec Ideal S128 .f32))
          (wOf (argOf m d main_arg10 : FVec Ideal S128x128 .f32)) (wOf (argOf m d main_arg11 : FVec Ideal S128x128 .f32)) (wOf (argOf m d main_arg12 : FVec Ideal S128x128 .f32)) (bOf (argOf m d main_arg13 : FVec Ideal S128 .f32)) := by
  have h := net_of (nbOf (argOf m d main_arg1 : IVec S2x320000 32)) (T0of m d)
    (argOf m d main_arg2 : FVec Ideal S128x128 .f32) (argOf m d main_arg3 : FVec Ideal S128x128 .f32) (argOf m d main_arg4 : FVec Ideal S128x128 .f32)
    (argOf m d main_arg6 : FVec Ideal S128x128 .f32) (argOf m d main_arg7 : FVec Ideal S128x128 .f32) (argOf m d main_arg8 : FVec Ideal S128x128 .f32)
    (argOf m d main_arg10 : FVec Ideal S128x128 .f32) (argOf m d main_arg11 : FVec Ideal S128x128 .f32) (argOf m d main_arg12 : FVec Ideal S128x128 .f32)
    (B0of m d) (B1of m d) (B2of m d) (G0of m d) (G1of m d) (G2of m d)
    (gOf_gsum _ _) (gOf_gsum _ _) (gOf_gsum _ _)
  unfold B0of B1of B2of at h
  rw [bRow_shapeCast, bRow_shapeCast, bRow_shapeCast] at h
  exact h

end Cert.Proof.KI

end
-- ==== Proof.HostPrefix.lean ====
/-
  The host operations at the head of the program, as one straight line.

  The program begins with eleven host operations that build the padded index table from the edge array and touch
  twelve buffers; the rest of the program follows.  Running the line from contents V leaves the table's buffer at the
  index-table term of the edge array's contents and leaves the edge array's buffer as it was.  Three single
  reshapes later in the program turn a [128] bias into a [1,128] row.
-/
import proofs.«205366_g3083786518796_cont_9to1_852_38_alg».proof.Proof.Gen.KernelIdeal
import proofs.«205366_g3083786518796_cont_9to1_852_38_alg».proof.Proof.IdxTerm
import Idealize.ShloMosaic.Lib.StableHlo.Run

set_option synthInstance.maxSize 4096

noncomputable section

namespace Cert.KernelIdeal.HostPre

open Idealize.ShloMosaic Idealize.SL.Sem Cert.KernelIdeal

variable {F : FTy → Type} [FloatOps F]
variable [Facts]
open Facts₀ Facts

/-- The eleven host operations, in order. -/
def preOps : List (HloOp τ sig (Elt F)) :=
  [
    StableHlo.unary main_arg1 main_v0 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v0 main_v1 rfl shapeCasts_S1x320000_S320000,
    StableHlo.nullary main_c (constantI S_ 32 0#32),
    StableHlo.unary main_c main_v2 (broadcastInDim S7680 ![] bcast_S_S7680 : (⟨S_, .i32⟩ : BufTy).Contents (Elt F) → (⟨S7680, .i32⟩ : BufTy).Contents (Elt F)),
    StableHlo.binary main_v1 main_v2 main_v3 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    StableHlo.reshape main_v3 main_v4 rfl shapeCasts_S327680_S32x10240,
    StableHlo.nullary main_c_0 (constantI S_ 32 0#32),
    StableHlo.unary main_c_0 main_v5 (broadcastInDim S32x10496 ![] bcast_S_S32x10496 : (⟨S_, .i32⟩ : BufTy).Contents (Elt F) → (⟨S32x10496, .i32⟩ : BufTy).Contents (Elt F)),
    StableHlo.nullary main_c_1 (constantI S_ 32 0#32),
    StableHlo.unary main_c_1 main_v6 (broadcastInDim S1 ![] bcast_S_S1 : (⟨S_, .i32⟩ : BufTy).Contents (Elt F) → (⟨S1, .i32⟩ : BufTy).Contents (Elt F)),
    StableHlo.ternary main_v5 main_v6 main_v4 main_v7 ((fun x i u => Host.scatter scatter_S32x10496_S1_S32x10240_01_n_1_0 (fun _ b => b) x i u) : (⟨S32x10496, .i32⟩ : BufTy).Contents (Elt F) → (⟨S1, .i32⟩ : BufTy).Contents (Elt F) → (⟨S32x10240, .i32⟩ : BufTy).Contents (Elt F) → (⟨S32x10496, .i32⟩ : BufTy).Contents (Elt F))
  ]

/-- The program after the eleven host operations. -/
def rest0 (d : Dev nD) : Prog (TpuEff nD τ sig (Elt F) (SparseCore.Sig (Pipeline.Sig Λ₀ (Fin 4) fun p => (pcfgs (F := F) p).Adm) 3) .tc) PUnit := do
  sc.run d 0
  Prog.lift (.customCall (SparseCore.inner (Pipeline.entry 0)) ())
  hlo rfl (StableHlo.reshape main_arg5 main_v10 rfl shapeCasts_S128_S1x128) (fun _ => .ret ⟨⟩)
  Prog.lift (.customCall (SparseCore.inner (Pipeline.entry 1)) ())
  sc.run d 1
  hlo rfl (StableHlo.reshape main_arg9 main_v13 rfl shapeCasts_S128_S1x128) (fun _ => .ret ⟨⟩)
  Prog.lift (.customCall (SparseCore.inner (Pipeline.entry 2)) ())
  sc.run d 2
  hlo rfl (StableHlo.reshape main_arg13 main_v16 rfl shapeCasts_S128_S1x128) (fun _ => .ret ⟨⟩)
  Prog.lift (.customCall (SparseCore.inner (Pipeline.entry 3)) ())
  pure ⟨⟩

/-- The program is the line of host operations followed by the rest. -/
theorem main_eq (d : Dev nD) : main (F := F) d = (StableHlo.seq preOps >>= fun _ => rest0 d) := rfl

/-- The twelve buffers the line touches. -/
def Spre : Finset (DevRef τ sig) :=
  {Proc.devRef .tc main_arg1, Proc.devRef .tc main_v0, Proc.devRef .tc main_v1, Proc.devRef .tc main_c, Proc.devRef .tc main_v2,
    Proc.devRef .tc main_v3, Proc.devRef .tc main_v4, Proc.devRef .tc main_c_0, Proc.devRef .tc main_v5, Proc.devRef .tc main_c_1,
    Proc.devRef .tc main_v6, Proc.devRef .tc main_v7}

theorem pre_fresh : ∀ op ∈ (preOps (F := F)), op.fresh = ∅ := by
  intro op hop
  simp only [preOps, List.mem_cons, List.mem_nil_iff, or_false] at hop
  rcases hop with rfl | rfl | rfl | rfl | rfl | rfl | rfl | rfl | rfl | rfl | rfl <;> rfl

theorem pre_bufs : ∀ op ∈ (preOps (F := F)), op.bufs ⊆ Spre := by
  intro op hop
  simp only [preOps, List.mem_cons, List.mem_nil_iff, or_false] at hop
  rcases hop with rfl | rfl | rfl | rfl | rfl | rfl | rfl | rfl | rfl | rfl | rfl
  · exact show ({Proc.devRef .tc main_arg1, Proc.devRef .tc main_v0} : Finset (DevRef τ sig)) ⊆ Spre by decide
  · exact show ({Proc.devRef .tc main_v0, Proc.devRef .tc main_v1} : Finset (DevRef τ sig)) ⊆ Spre by decide
  · exact show ({Proc.devRef .tc main_c} : Finset (DevRef τ sig)) ⊆ Spre by decide
  · exact show ({Proc.devRef .tc main_c, Proc.devRef .tc main_v2} : Finset (DevRef τ sig)) ⊆ Spre by decide
  · exact show ({Proc.devRef .tc main_v1, Proc.devRef .tc main_v2, Proc.devRef .tc main_v3} : Finset (DevRef τ sig)) ⊆ Spre by decide
  · exact show ({Proc.devRef .tc main_v3, Proc.devRef .tc main_v4} : Finset (DevRef τ sig)) ⊆ Spre by decide
  · exact show ({Proc.devRef .tc main_c_0} : Finset (DevRef τ sig)) ⊆ Spre by decide
  · exact show ({Proc.devRef .tc main_c_0, Proc.devRef .tc main_v5} : Finset (DevRef τ sig)) ⊆ Spre by decide
  · exact show ({Proc.devRef .tc main_c_1} : Finset (DevRef τ sig)) ⊆ Spre by decide
  · exact show ({Proc.devRef .tc main_c_1, Proc.devRef .tc main_v6} : Finset (DevRef τ sig)) ⊆ Spre by decide
  · exact show ({Proc.devRef .tc main_v5, Proc.devRef .tc main_v6, Proc.devRef .tc main_v4, Proc.devRef .tc main_v7} : Finset (DevRef τ sig)) ⊆ Spre by decide

open StableHlo in
/-- After the line the table's buffer holds the index table of the edge array's contents. -/
theorem after_pre_v7 (V : Valuation τ sig (Elt F)) :
    (StableHlo.after preOps V (Proc.devRef .tc main_v7) : IVec S32x10496 32)
      = Cert.KernelIdeal.IdxTerm.idxTerm (V (Proc.devRef .tc main_arg1) : IVec S2x320000 32) := by
  unfold preOps
  after_results
  rfl

open StableHlo in
/-- The line does not write the edge array. -/
theorem after_pre_arg1 (V : Valuation τ sig (Elt F)) :
    StableHlo.after preOps V (Proc.devRef .tc main_arg1) = V (Proc.devRef .tc main_arg1) := by
  unfold preOps
  after_results

/-! ### The three bias reshapes -/

def rsOp10 : HloOp τ sig (Elt F) := StableHlo.reshape main_arg5 main_v10 rfl shapeCasts_S128_S1x128
def rsOp13 : HloOp τ sig (Elt F) := StableHlo.reshape main_arg9 main_v13 rfl shapeCasts_S128_S1x128
def rsOp16 : HloOp τ sig (Elt F) := StableHlo.reshape main_arg13 main_v16 rfl shapeCasts_S128_S1x128

theorem rsOp10_bufs : (rsOp10 (F := F)).bufs = {Proc.devRef .tc main_arg5, Proc.devRef .tc main_v10} := rfl
theorem rsOp13_bufs : (rsOp13 (F := F)).bufs = {Proc.devRef .tc main_arg9, Proc.devRef .tc main_v13} := rfl
theorem rsOp16_bufs : (rsOp16 (F := F)).bufs = {Proc.devRef .tc main_arg13, Proc.devRef .tc main_v16} := rfl
theorem rsOp10_fresh : (rsOp10 (F := F)).fresh = ∅ := rfl
theorem rsOp13_fresh : (rsOp13 (F := F)).fresh = ∅ := rfl
theorem rsOp16_fresh : (rsOp16 (F := F)).fresh = ∅ := rfl

theorem rsOp10_result (V : Valuation τ sig (Elt F)) :
    ((rsOp10 (F := F)).result V (Proc.devRef .tc main_v10) : FVec F S1x128 .f32)
      = shapeCast S1x128 (V (Proc.devRef .tc main_arg5) : FVec F S128 .f32) shapeCasts_S128_S1x128 :=
  StableHlo.reshape_result main_arg5 main_v10 rfl shapeCasts_S128_S1x128 ⟨by decide, rfl⟩ ⟨by decide, rfl⟩ V
theorem rsOp13_result (V : Valuation τ sig (Elt F)) :
    ((rsOp13 (F := F)).result V (Proc.devRef .tc main_v13) : FVec F S1x128 .f32)
      = shapeCast S1x128 (V (Proc.devRef .tc main_arg9) : FVec F S128 .f32) shapeCasts_S128_S1x128 :=
  StableHlo.reshape_result main_arg9 main_v13 rfl shapeCasts_S128_S1x128 ⟨by decide, rfl⟩ ⟨by decide, rfl⟩ V
theorem rsOp16_result (V : Valuation τ sig (Elt F)) :
    ((rsOp16 (F := F)).result V (Proc.devRef .tc main_v16) : FVec F S1x128 .f32)
      = shapeCast S1x128 (V (Proc.devRef .tc main_arg13) : FVec F S128 .f32) shapeCasts_S128_S1x128 :=
  StableHlo.reshape_result main_arg13 main_v16 rfl shapeCasts_S128_S1x128 ⟨by decide, rfl⟩ ⟨by decide, rfl⟩ V

/-- A reshape writes only its result. -/
theorem rsOp10_result_ne (V : Valuation τ sig (Elt F)) {r : Ref sig .tc} (h : r ≠ main_v10) :
    (rsOp10 (F := F)).result V (Proc.devRef .tc r) = V (Proc.devRef .tc r) := StableHlo.reshape_result_ne _ _ _ _ _ _ V h
theorem rsOp13_result_ne (V : Valuation τ sig (Elt F)) {r : Ref sig .tc} (h : r ≠ main_v13) :
    (rsOp13 (F := F)).result V (Proc.devRef .tc r) = V (Proc.devRef .tc r) := StableHlo.reshape_result_ne _ _ _ _ _ _ V h
theorem rsOp16_result_ne (V : Valuation τ sig (Elt F)) {r : Ref sig .tc} (h : r ≠ main_v16) :
    (rsOp16 (F := F)).result V (Proc.devRef .tc r) = V (Proc.devRef .tc r) := StableHlo.reshape_result_ne _ _ _ _ _ _ V h

/-- The [1,128] view of a [128] array: entry (0, j) is entry j. -/
theorem row_of_vec {α : Type} (x : S128.Idx → α) (j : Fin 128) :
    shapeCast S1x128 x shapeCasts_S128_S1x128 (ValueIdx.ix2 (0 : Fin 1) j) = x (ValueIdx.ix1 j) := by
  refine shapeCast_apply x _ (ValueIdx.ix2 (0 : Fin 1) j) (ValueIdx.ix1 j) ?_
  rw [Shape.rowMajor_val_one, Shape.rowMajor_val_two]
  show j.val = 0 * 128 + j.val
  omega

end Cert.KernelIdeal.HostPre

end
-- ==== Proof.ScGhost.lean ====
/-
  The launch element of the proof's ghost state: the handshake cells' rounds, the barrier cells' rounds (three rounds
  per cell, a duty per tile of the SparseCore in each), the TensorCore pipelines' staging cells' rounds, and what @main's
  proof is dealt from them beside the launch's own deal.
-/
import proofs.«205366_g3083786518796_cont_9to1_852_38_alg».proof.Proof.ScPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

abbrev DCI : Type := Dev nD × Fin τ.nSC × Fin τ.nSub
abbrev bcell₃ (x : DCI) : GSem nD τ sig := bcell x.1 x.2.1 x.2.2
def bCells : Finset (GSem nD τ sig) := Finset.univ.image bcell₃
/-- Tile `i`'s token in tile `j`'s cell at round `r`, for every pair of tiles of a SparseCore and each of the three rounds. -/
def bToks : Finset (GSem nD τ sig × ℕ × ℕ) :=
  Finset.univ.image fun x : DCI × Fin 3 × Fin τ.nSub => (bcell₃ x.1, x.2.1.val, x.2.2.val)

def u₀ : UU :=
  (initOf (K (F := F)).hsCells (K (F := F)).hsToks,
    (initOf bCells bToks, (initOf (Pipeline.cells (nD := nD) (τ := τ) cfgs cellOf_inj) (Pipeline.launchToks (nD := nD) (τ := τ) cfgs cellOf_inj), 1)))

/-- What @main's proof starts from beside the launch's deal: every tile's barrier cell at the origin of round 0, and the
    TensorCore pipelines' staging cells' launch state and duty tokens. -/
def G (d : Dev nD) : sProp 𝕄 :=
  iprop((bigSep Finset.univ fun ci : Fin τ.nSC × Fin τ.nSub => barCarry (F := F) 0 d ci.1 ci.2)
    ∗ (bigSep Finset.univ fun p : Fin 4 => Pipeline.cellsGhost (nD := nD) (τ := τ) cfgs (ER (F := F)) p d)
    ∗ (bigSep Finset.univ fun p : Fin 4 => (Pipeline.toksInit (nD := nD) (τ := τ) cfgs (ER (F := F)) p d : sProp 𝕄)))

end Cert.Proof.KI

end
-- ==== Proof.TcSegs.lean ====
import proofs.«205366_g3083786518796_cont_9to1_852_38_alg».proof.Proof.Gen.KernelIdeal.Launch
import proofs.«205366_g3083786518796_cont_9to1_852_38_alg».proof.Proof.Gen.KernelIdeal.Skeleton
import proofs.«205366_g3083786518796_cont_9to1_852_38_alg».proof.Proof.Gen.KernelIdeal.Points
import proofs.«205366_g3083786518796_cont_9to1_852_38_alg».proof.Proof.TcZBody
import proofs.«205366_g3083786518796_cont_9to1_852_38_alg».proof.Proof.TcFused1Body
import proofs.«205366_g3083786518796_cont_9to1_852_38_alg».proof.Proof.TcFused2Body
import proofs.«205366_g3083786518796_cont_9to1_852_38_alg».proof.Proof.TcOutBody
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# The four TensorCore regions as region records

Every pipeline's proof data at its own entry contents `V p` and its core's own constant debts `(O p c).1` with the wait pairs recorded before the region within `(O p c).2`, as one family; and
per region the library's record: the layout facts, the body obligation, and the four entailments between the thread
state around the region and the pipeline's precondition.  The thread state entering a region is exactly the region's
arrays at their entry contents and the core's debts; leaving it, the arrays at their final contents and the debts.
The wait evidence (`hwaits`) depends on the caller's levels and is a parameter.
-/

section Segs

variable (V : Fin 4 → (c : Dev nD) → (b : Ref sig .tc) → Buf (Elt F) ((c : Thread nD τ).loc b))
variable (O : Fin 4 → Dev nD → CellTallies nD τ sig Ix × Set (SemLoc sig × Ix))

/-- No pipeline has a prefetched table. -/
abbrev adm : (p : Fin 4) → (pcfgs (F := F) p).Adm := fun p => (cfgs p).toPCfg_adm

variable (Name U Lvl) in
/-- Every pipeline's proof data — a literal match on the pipeline, so that the pinned configuration at a numeral
    reduces to the printed one. -/
def pdats : (p : Fin 4) → (c : Dev nD) → Dat τ (Elt F) Ix Name U Lvl (Pipeline.pin (pcfgs (F := F)) adm p) c
  | ⟨0, _⟩ => fun c => dat0 Name U Lvl (V 0) (O 0 c) c
  | ⟨1, _⟩ => fun c => dat1 Name U Lvl (V 1) (O 1 c) c
  | ⟨2, _⟩ => fun c => dat2 Name U Lvl (V 2) (O 2 c) c
  | ⟨3, _⟩ => fun c => dat3 Name U Lvl (V 3) (O 3 c) c

theorem pdats_0 (c : Dev nD) : pdats Name U Lvl V O 0 c = dat0 Name U Lvl (V 0) (O 0 c) c := rfl
theorem pdats_1 (c : Dev nD) : pdats Name U Lvl V O 1 c = dat1 Name U Lvl (V 1) (O 1 c) c := rfl
theorem pdats_2 (c : Dev nD) : pdats Name U Lvl V O 2 c = dat2 Name U Lvl (V 2) (O 2 c) c := rfl
theorem pdats_3 (c : Dev nD) : pdats Name U Lvl V O 3 c = dat3 Name U Lvl (V 3) (O 3 c) c := rfl

variable (𝒱₀ : Variants) (ι : Ix) (L : GSem nD τ sig → Finset Ix) (lv : GSem nD τ sig → Ix → Lvl)

-- a library lemma stated over the pinned configuration unifies with the printed one only when unification may unfold
-- plain definitions in a metavariable's type
set_option backward.isDefEq.respectTransparency.types false in
/-- REGION 0 (custom_call 1): entered holding its arrays at the entry contents and the core's debts `O 0`, left
    holding the arrays at what the write-backs leave and the same debts; no semaphore of the kernel's own; the
    invariant is the scoped buffers no window stages. -/
def reg0 (hwaits : ∀ c, (levAts L lv : sProp 𝕄) ⊢ Pipeline.cellsWaits (Pipeline.pin (pcfgs (F := F)) adm) (pdats Name U Lvl V O) ι 0 c) :
    Pipeline.RegionSeg (pcfgs (F := F)) adm (pdats Name U Lvl V O) ι defs₀ 𝒱₀ L lv 0 where
  win := launch1.win.to₀
  block_pos := launch1.block_pos
  stage_whole := launch1.stage_whole
  K := PEmpty
  osem k := k.elim
  ho := Pipeline.OwnSemFacts.none _
  hbody c := (body_obligation0 (V 0) 𝒱₀ (O 0 c) ι c).loose
  hwaits := hwaits
  pre c := iprop((pdats Name U Lvl V O 0 c).arrays ((pdats Name U Lvl V O 0 c).arrAt · 0) ∗ (pdats Name U Lvl V O 0 c).owesAt ι 0)
  post c := iprop((pdats Name U Lvl V O 0 c).arrays ((pdats Name U Lvl V O 0 c).arrAt · cfg1.N) ∗ (pdats Name U Lvl V O 0 c).owesAt ι (Fin.last cfg1.N))
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (pdats Name U Lvl V O 0 c).Φ 0 = Pipeline.scopedRest spec1 c from rfl]
    iintro ⟨-, -, Hr⟩
    iexact Hr
  hout c := by
    rw [Pipeline.ownSems0_none, show (pdats Name U Lvl V O 0 c).Φ (Fin.last _) = Pipeline.scopedRest spec1 c from rfl]
    iintro Hr
    isplitr; · iempintro
    isplitr; · iempintro
    iexact Hr
  hexit c := by
    iintro ⟨Ha, HO, -, -⟩
    imodintro
    isplitl [Ha]; · iexact Ha
    iexact HO

-- a library lemma stated over the pinned configuration unifies with the printed one only when unification may unfold
-- plain definitions in a metavariable's type
set_option backward.isDefEq.respectTransparency.types false in
/-- REGION 1 (custom_call 2): entered holding its arrays at the entry contents and the core's debts `O 1`, left
    holding the arrays at what the write-backs leave and the same debts; no semaphore of the kernel's own; the
    invariant is the scoped buffers no window stages. -/
def reg1 (hwaits : ∀ c, (levAts L lv : sProp 𝕄) ⊢ Pipeline.cellsWaits (Pipeline.pin (pcfgs (F := F)) adm) (pdats Name U Lvl V O) ι 1 c) :
    Pipeline.RegionSeg (pcfgs (F := F)) adm (pdats Name U Lvl V O) ι defs₀ 𝒱₀ L lv 1 where
  win := launch2.win.to₀
  block_pos := launch2.block_pos
  stage_whole := launch2.stage_whole
  K := PEmpty
  osem k := k.elim
  ho := Pipeline.OwnSemFacts.none _
  hbody c := body_obligation1 (V 1) 𝒱₀ (O 1 c) ι c
  hwaits := hwaits
  pre c := iprop((pdats Name U Lvl V O 1 c).arrays ((pdats Name U Lvl V O 1 c).arrAt · 0) ∗ (pdats Name U Lvl V O 1 c).owesAt ι 0)
  post c := iprop((pdats Name U Lvl V O 1 c).arrays ((pdats Name U Lvl V O 1 c).arrAt · cfg2.N) ∗ (pdats Name U Lvl V O 1 c).owesAt ι (Fin.last cfg2.N))
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (pdats Name U Lvl V O 1 c).Φ 0 = Pipeline.scopedRest spec2 c from rfl]
    iintro ⟨-, -, Hr⟩
    iexact Hr
  hout c := by
    rw [Pipeline.ownSems0_none, show (pdats Name U Lvl V O 1 c).Φ (Fin.last _) = Pipeline.scopedRest spec2 c from rfl]
    iintro Hr
    isplitr; · iempintro
    isplitr; · iempintro
    iexact Hr
  hexit c := by
    iintro ⟨Ha, HO, -, -⟩
    imodintro
    isplitl [Ha]; · iexact Ha
    iexact HO

-- a library lemma stated over the pinned configuration unifies with the printed one only when unification may unfold
-- plain definitions in a metavariable's type
set_option backward.isDefEq.respectTransparency.types false in
/-- REGION 2 (custom_call 4): entered holding its arrays at the entry contents and the core's debts `O 2`, left
    holding the arrays at what the write-backs leave and the same debts; no semaphore of the kernel's own; the
    invariant is the scoped buffers no window stages. -/
def reg2 (hwaits : ∀ c, (levAts L lv : sProp 𝕄) ⊢ Pipeline.cellsWaits (Pipeline.pin (pcfgs (F := F)) adm) (pdats Name U Lvl V O) ι 2 c) :
    Pipeline.RegionSeg (pcfgs (F := F)) adm (pdats Name U Lvl V O) ι defs₀ 𝒱₀ L lv 2 where
  win := launch4.win.to₀
  block_pos := launch4.block_pos
  stage_whole := launch4.stage_whole
  K := PEmpty
  osem k := k.elim
  ho := Pipeline.OwnSemFacts.none _
  hbody c := body_obligation2 (V 2) 𝒱₀ (O 2 c) ι c
  hwaits := hwaits
  pre c := iprop((pdats Name U Lvl V O 2 c).arrays ((pdats Name U Lvl V O 2 c).arrAt · 0) ∗ (pdats Name U Lvl V O 2 c).owesAt ι 0)
  post c := iprop((pdats Name U Lvl V O 2 c).arrays ((pdats Name U Lvl V O 2 c).arrAt · cfg4.N) ∗ (pdats Name U Lvl V O 2 c).owesAt ι (Fin.last cfg4.N))
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (pdats Name U Lvl V O 2 c).Φ 0 = Pipeline.scopedRest spec4 c from rfl]
    iintro ⟨-, -, Hr⟩
    iexact Hr
  hout c := by
    rw [Pipeline.ownSems0_none, show (pdats Name U Lvl V O 2 c).Φ (Fin.last _) = Pipeline.scopedRest spec4 c from rfl]
    iintro Hr
    isplitr; · iempintro
    isplitr; · iempintro
    iexact Hr
  hexit c := by
    iintro ⟨Ha, HO, -, -⟩
    imodintro
    isplitl [Ha]; · iexact Ha
    iexact HO

-- a library lemma stated over the pinned configuration unifies with the printed one only when unification may unfold
-- plain definitions in a metavariable's type
set_option backward.isDefEq.respectTransparency.types false in
/-- REGION 3 (custom_call 6): entered holding its arrays at the entry contents and the core's debts `O 3`, left
    holding the arrays at what the write-backs leave and the same debts; no semaphore of the kernel's own; the
    invariant is the scoped buffers no window stages. -/
def reg3 (hwaits : ∀ c, (levAts L lv : sProp 𝕄) ⊢ Pipeline.cellsWaits (Pipeline.pin (pcfgs (F := F)) adm) (pdats Name U Lvl V O) ι 3 c) :
    Pipeline.RegionSeg (pcfgs (F := F)) adm (pdats Name U Lvl V O) ι defs₀ 𝒱₀ L lv 3 where
  win := launch6.win.to₀
  block_pos := launch6.block_pos
  stage_whole := launch6.stage_whole
  K := PEmpty
  osem k := k.elim
  ho := Pipeline.OwnSemFacts.none _
  hbody c := body_obligation3 (V 3) 𝒱₀ (O 3 c) ι c
  hwaits := hwaits
  pre c := iprop((pdats Name U Lvl V O 3 c).arrays ((pdats Name U Lvl V O 3 c).arrAt · 0) ∗ (pdats Name U Lvl V O 3 c).owesAt ι 0)
  post c := iprop((pdats Name U Lvl V O 3 c).arrays ((pdats Name U Lvl V O 3 c).arrAt · cfg6.N) ∗ (pdats Name U Lvl V O 3 c).owesAt ι (Fin.last cfg6.N))
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (pdats Name U Lvl V O 3 c).Φ 0 = Pipeline.scopedRest spec6 c from rfl]
    iintro ⟨-, -, Hr⟩
    iexact Hr
  hout c := by
    rw [Pipeline.ownSems0_none, show (pdats Name U Lvl V O 3 c).Φ (Fin.last _) = Pipeline.scopedRest spec6 c from rfl]
    iintro Hr
    isplitr; · iempintro
    isplitr; · iempintro
    iexact Hr
  hexit c := by
    iintro ⟨Ha, HO, -, -⟩
    imodintro
    isplitl [Ha]; · iexact Ha
    iexact HO

end Segs

end Cert.KernelIdeal.Regions

end
-- ==== Proof.TcLift.lean ====
import proofs.«205366_g3083786518796_cont_9to1_852_38_alg».proof.Proof.ScSetup
import proofs.«205366_g3083786518796_cont_9to1_852_38_alg».proof.Proof.TcSegs

set_option maxRecDepth 16384

noncomputable section

/-!
# A TensorCore region entered from the program with SparseCore calls

In the whole program a region is the call of the region's label through the SparseCore layer's signature.  A proof
about the call under the pipelines' own label table is a proof about it under the extended table, so the region
rule at the pipeline level serves: from the thread's boundary, the region's arrays at their entry contents, the
pipeline's staging-cell ghost state and the core's debts (none at the index the region's own waits use), the call
runs to the boundary, the arrays at what the write-backs leave, and the same debts.
-/

namespace Cert.Proof.KI

open Cert.KernelIdeal Cert.KernelIdeal.Gen Cert.KernelIdeal.Regions

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 3) (Elt F) ℕ UU ℕ

section Lift

variable (W : Fin 4 → (c : Dev nD) → (b : Ref sig .tc) → Buf (Elt F) ((c : Thread nD τ).loc b))
variable (O : Fin 4 → Dev nD → CellTallies nD τ sig (HIx 3) × Set (SemLoc sig × HIx 3))
variable (lv : GSem nD τ sig → HIx 3 → ℕ)

/-- The region's own waits are at the index `none`, below every debt of the launch protocol. -/
theorem hwaits0 (hO : ∀ p d g, (O p d).1 g none = 0) (hlv : (K (F := F)).Refines lv) (c : Dev nD) : (levAts (K (F := F)).L lv : sProp 𝕄)
    ⊢ Pipeline.cellsWaits (Pipeline.pin (pcfgs (F := F)) adm) (pdats ℕ UU ℕ W O) (none : HIx 3) 0 c :=
  Pipeline.cellsWaits_intro _ _ (none : HIx 3) 0 c fun w s t => (K (F := F)).mayWait_none _ (hO 0 c) lv hlv
theorem hwaits1 (hO : ∀ p d g, (O p d).1 g none = 0) (hlv : (K (F := F)).Refines lv) (c : Dev nD) : (levAts (K (F := F)).L lv : sProp 𝕄)
    ⊢ Pipeline.cellsWaits (Pipeline.pin (pcfgs (F := F)) adm) (pdats ℕ UU ℕ W O) (none : HIx 3) 1 c :=
  Pipeline.cellsWaits_intro _ _ (none : HIx 3) 1 c fun w s t => (K (F := F)).mayWait_none _ (hO 1 c) lv hlv
theorem hwaits2 (hO : ∀ p d g, (O p d).1 g none = 0) (hlv : (K (F := F)).Refines lv) (c : Dev nD) : (levAts (K (F := F)).L lv : sProp 𝕄)
    ⊢ Pipeline.cellsWaits (Pipeline.pin (pcfgs (F := F)) adm) (pdats ℕ UU ℕ W O) (none : HIx 3) 2 c :=
  Pipeline.cellsWaits_intro _ _ (none : HIx 3) 2 c fun w s t => (K (F := F)).mayWait_none _ (hO 2 c) lv hlv
theorem hwaits3 (hO : ∀ p d g, (O p d).1 g none = 0) (hlv : (K (F := F)).Refines lv) (c : Dev nD) : (levAts (K (F := F)).L lv : sProp 𝕄)
    ⊢ Pipeline.cellsWaits (Pipeline.pin (pcfgs (F := F)) adm) (pdats ℕ UU ℕ W O) (none : HIx 3) 3 c :=
  Pipeline.cellsWaits_intro _ _ (none : HIx 3) 3 c fun w s t => (K (F := F)).mayWait_none _ (hO 3 c) lv hlv

-- a library lemma stated over the pinned configuration unifies with the printed one only when unification may unfold
-- plain definitions in a metavariable's type
set_option backward.isDefEq.respectTransparency.types false in
/-- A region record's rule, read in the whole program: the call of the region's label through the SparseCore layer. -/
theorem wp_regionSeg {p : Fin 4}
    (R : Pipeline.RegionSeg (pcfgs (F := F)) adm (pdats ℕ UU ℕ W O) (none : HIx 3) defs₀ 𝒱₀ (K (F := F)).L lv p)
    (d : Dev nD) {α : Type} (k : PUnit → Prog (TpuEff nD τ sig (Elt F) (SparseCore.Sig (ΛP (F := F)) 3) .tc) α) (Φ : α → sProp 𝕄) :
    iprop(boundary (T d : Thread nD τ) ∗ R.pre d ∗ levAts (K (F := F)).L lv
        ∗ Pipeline.cellsGhost (Pipeline.pin (pcfgs (F := F)) adm) ER p d ∗ Pipeline.toksInit (Pipeline.pin (pcfgs (F := F)) adm) ER p d
        ∗ (iprop(boundary (T d : Thread nD τ) ∗ R.post d) -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry p)) ()) >>= k) Φ := by
  rw [wp_bind]
  iintro ⟨Hb, Hpre, Hlev, Hg, Ht, Hk⟩
  iapply ((K (F := F)).wp_liftProg D 𝒱 (T d) Set.univ none
    (.op (.customCall (Pipeline.entry p) ()) fun _ => .ret PUnit.unit) _)
  iapply (Pipeline.RegionSeg.wp (pcfgs (F := F)) adm (pdats ℕ UU ℕ W O) (none : HIx 3) cellOf_inj ER defs₀ 𝒱₀
    (K (F := F)).L lv R d none (fun u hu => by cases hu) (fun _ => .ret PUnit.unit) _)
  isplitl [Hk]
  · iintro Hbp
    rw [wp_ret]
    imodintro
    iapply Hk
    iexact Hbp
  isplitl [Hb]; · iexact Hb
  isplitl [Hpre]; · iexact Hpre
  isplitl [Hlev]; · iexact Hlev
  isplitl [Hg]; · iexact Hg
  iexact Ht

/-- The thread state region 0 is entered from, made of its arrays and the core's plain debts (the wait pairs recorded so
    far within the proof data's bound); and what it is left in, read back: the wait pairs recorded by then are the
    earlier ones and the pipeline's own. -/
theorem pre_intro0 (hw : ∀ c, (levAts (K (F := F)).L lv : sProp 𝕄) ⊢ Pipeline.cellsWaits (Pipeline.pin (pcfgs (F := F)) adm) (pdats ℕ UU ℕ W O) (none : HIx 3) 0 c)
    (d : Dev nD) (Wt : Waits sig (HIx 3)) (hWt : (↑Wt : Set (SemLoc sig × HIx 3)) ⊆ (O 0 d).2) :
    iprop((pdats ℕ UU ℕ W O 0 d).arrays ((pdats ℕ UU ℕ W O 0 d).arrAt · 0) ∗ owes (T d : Thread nD τ) (O 0 d).1 Wt)
      ⊢ (reg0 W O 𝒱₀ (none : HIx 3) (K (F := F)).L lv hw).pre d := by
  show _ ⊢ iprop((pdats ℕ UU ℕ W O 0 d).arrays ((pdats ℕ UU ℕ W O 0 d).arrAt · 0) ∗ (pdats ℕ UU ℕ W O 0 d).owesAt (none : HIx 3) 0)
  iintro ⟨Ha, HO⟩
  isplitl [Ha]; · iexact Ha
  unfold Pipeline.Dat.owesAt Pipeline.owesWithin
  iexists Wt; isplitr; · ipureintro; exact fun x hx => Or.inl (hWt hx)
  iexact HO
theorem post_elim0 (hw : ∀ c, (levAts (K (F := F)).L lv : sProp 𝕄) ⊢ Pipeline.cellsWaits (Pipeline.pin (pcfgs (F := F)) adm) (pdats ℕ UU ℕ W O) (none : HIx 3) 0 c)
    (d : Dev nD) :
    (reg0 W O 𝒱₀ (none : HIx 3) (K (F := F)).L lv hw).post d
      ⊢ iprop((pdats ℕ UU ℕ W O 0 d).arrays ((pdats ℕ UU ℕ W O 0 d).arrAt · cfg1.N)
          ∗ (∃ Wt' : Waits sig (HIx 3), ⌜(↑Wt' : Set (SemLoc sig × HIx 3)) ⊆ (O 0 d).2 ∪ cfg1.waitPairs (none : HIx 3)⌝ ∗ owes (T d : Thread nD τ) (O 0 d).1 Wt')) := by
  show iprop((pdats ℕ UU ℕ W O 0 d).arrays ((pdats ℕ UU ℕ W O 0 d).arrAt · cfg1.N) ∗ (pdats ℕ UU ℕ W O 0 d).owesAt (none : HIx 3) (Fin.last cfg1.N)) ⊢ _
  iintro ⟨Ha, HO⟩
  isplitl [Ha]; · iexact Ha
  unfold Pipeline.Dat.owesAt Pipeline.owesWithin
  icases HO with ⟨%W', %hW', HO⟩
  iexists W'; isplitr; · ipureintro; exact hW'
  iexact HO

-- a library lemma stated over the pinned configuration unifies with the printed one only when unification may unfold
-- plain definitions in a metavariable's type
set_option backward.isDefEq.respectTransparency.types false in
/-- REGION 0 in the whole program: from the boundary, its arrays at the entry contents `W 0`, the level facts, the
    pipeline's staging-cell ghost state and the core owing `(O 0 d).1`, the call runs on to its continuation from the
    boundary, the arrays at what the write-backs leave (read by the region's value lemmas), and the same debts, the
    wait pairs recorded meanwhile being the pipeline's own. -/
theorem wp_region0 (hO : ∀ p d g, (O p d).1 g none = 0) (hlv : (K (F := F)).Refines lv) (d : Dev nD) (Wt : Waits sig (HIx 3))
    (hWt : (↑Wt : Set (SemLoc sig × HIx 3)) ⊆ (O 0 d).2) {α : Type}
    (k : PUnit → Prog (TpuEff nD τ sig (Elt F) (SparseCore.Sig (ΛP (F := F)) 3) .tc) α) (Φ : α → sProp 𝕄) :
    iprop(boundary (T d : Thread nD τ)
        ∗ (pdats ℕ UU ℕ W O 0 d).arrays ((pdats ℕ UU ℕ W O 0 d).arrAt · 0)
        ∗ owes (T d : Thread nD τ) (O 0 d).1 Wt
        ∗ levAts (K (F := F)).L lv
        ∗ Pipeline.cellsGhost (Pipeline.pin (pcfgs (F := F)) adm) ER 0 d ∗ Pipeline.toksInit (Pipeline.pin (pcfgs (F := F)) adm) ER 0 d
        ∗ (iprop(boundary (T d : Thread nD τ)
              ∗ (pdats ℕ UU ℕ W O 0 d).arrays ((pdats ℕ UU ℕ W O 0 d).arrAt · cfg1.N)
              ∗ (∃ Wt' : Waits sig (HIx 3), ⌜(↑Wt' : Set (SemLoc sig × HIx 3)) ⊆ (O 0 d).2 ∪ cfg1.waitPairs (none : HIx 3)⌝ ∗ owes (T d : Thread nD τ) (O 0 d).1 Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 0)) ()) >>= k) Φ := by
  iintro ⟨Hb, Ha, HO, Hlev, Hg, Ht, Hk⟩
  iapply (wp_regionSeg W O lv (reg0 W O 𝒱₀ (none : HIx 3) (K (F := F)).L lv (hwaits0 W O lv hO hlv)) d k Φ)
  isplitl [Hb]; · iexact Hb
  isplitl [Ha HO]
  · iapply (pre_intro0 W O lv (hwaits0 W O lv hO hlv) d Wt hWt)
    isplitl [Ha]; · iexact Ha
    iexact HO
  isplitl [Hlev]; · iexact Hlev
  isplitl [Hg]; · iexact Hg
  isplitl [Ht]; · iexact Ht
  iintro ⟨Hb, Hpost⟩
  iapply Hk
  isplitl [Hb]; · iexact Hb
  iapply (post_elim0 W O lv (hwaits0 W O lv hO hlv) d)
  iexact Hpost

/-- The thread state region 1 is entered from, made of its arrays and the core's plain debts (the wait pairs recorded so
    far within the proof data's bound); and what it is left in, read back: the wait pairs recorded by then are the
    earlier ones and the pipeline's own. -/
theorem pre_intro1 (hw : ∀ c, (levAts (K (F := F)).L lv : sProp 𝕄) ⊢ Pipeline.cellsWaits (Pipeline.pin (pcfgs (F := F)) adm) (pdats ℕ UU ℕ W O) (none : HIx 3) 1 c)
    (d : Dev nD) (Wt : Waits sig (HIx 3)) (hWt : (↑Wt : Set (SemLoc sig × HIx 3)) ⊆ (O 1 d).2) :
    iprop((pdats ℕ UU ℕ W O 1 d).arrays ((pdats ℕ UU ℕ W O 1 d).arrAt · 0) ∗ owes (T d : Thread nD τ) (O 1 d).1 Wt)
      ⊢ (reg1 W O 𝒱₀ (none : HIx 3) (K (F := F)).L lv hw).pre d := by
  show _ ⊢ iprop((pdats ℕ UU ℕ W O 1 d).arrays ((pdats ℕ UU ℕ W O 1 d).arrAt · 0) ∗ (pdats ℕ UU ℕ W O 1 d).owesAt (none : HIx 3) 0)
  iintro ⟨Ha, HO⟩
  isplitl [Ha]; · iexact Ha
  unfold Pipeline.Dat.owesAt Pipeline.owesWithin
  iexists Wt; isplitr; · ipureintro; exact fun x hx => Or.inl (hWt hx)
  iexact HO
theorem post_elim1 (hw : ∀ c, (levAts (K (F := F)).L lv : sProp 𝕄) ⊢ Pipeline.cellsWaits (Pipeline.pin (pcfgs (F := F)) adm) (pdats ℕ UU ℕ W O) (none : HIx 3) 1 c)
    (d : Dev nD) :
    (reg1 W O 𝒱₀ (none : HIx 3) (K (F := F)).L lv hw).post d
      ⊢ iprop((pdats ℕ UU ℕ W O 1 d).arrays ((pdats ℕ UU ℕ W O 1 d).arrAt · cfg2.N)
          ∗ (∃ Wt' : Waits sig (HIx 3), ⌜(↑Wt' : Set (SemLoc sig × HIx 3)) ⊆ (O 1 d).2 ∪ cfg2.waitPairs (none : HIx 3)⌝ ∗ owes (T d : Thread nD τ) (O 1 d).1 Wt')) := by
  show iprop((pdats ℕ UU ℕ W O 1 d).arrays ((pdats ℕ UU ℕ W O 1 d).arrAt · cfg2.N) ∗ (pdats ℕ UU ℕ W O 1 d).owesAt (none : HIx 3) (Fin.last cfg2.N)) ⊢ _
  iintro ⟨Ha, HO⟩
  isplitl [Ha]; · iexact Ha
  unfold Pipeline.Dat.owesAt Pipeline.owesWithin
  icases HO with ⟨%W', %hW', HO⟩
  iexists W'; isplitr; · ipureintro; exact hW'
  iexact HO

-- a library lemma stated over the pinned configuration unifies with the printed one only when unification may unfold
-- plain definitions in a metavariable's type
set_option backward.isDefEq.respectTransparency.types false in
/-- REGION 1 in the whole program: from the boundary, its arrays at the entry contents `W 1`, the level facts, the
    pipeline's staging-cell ghost state and the core owing `(O 1 d).1`, the call runs on to its continuation from the
    boundary, the arrays at what the write-backs leave (read by the region's value lemmas), and the same debts, the
    wait pairs recorded meanwhile being the pipeline's own. -/
theorem wp_region1 (hO : ∀ p d g, (O p d).1 g none = 0) (hlv : (K (F := F)).Refines lv) (d : Dev nD) (Wt : Waits sig (HIx 3))
    (hWt : (↑Wt : Set (SemLoc sig × HIx 3)) ⊆ (O 1 d).2) {α : Type}
    (k : PUnit → Prog (TpuEff nD τ sig (Elt F) (SparseCore.Sig (ΛP (F := F)) 3) .tc) α) (Φ : α → sProp 𝕄) :
    iprop(boundary (T d : Thread nD τ)
        ∗ (pdats ℕ UU ℕ W O 1 d).arrays ((pdats ℕ UU ℕ W O 1 d).arrAt · 0)
        ∗ owes (T d : Thread nD τ) (O 1 d).1 Wt
        ∗ levAts (K (F := F)).L lv
        ∗ Pipeline.cellsGhost (Pipeline.pin (pcfgs (F := F)) adm) ER 1 d ∗ Pipeline.toksInit (Pipeline.pin (pcfgs (F := F)) adm) ER 1 d
        ∗ (iprop(boundary (T d : Thread nD τ)
              ∗ (pdats ℕ UU ℕ W O 1 d).arrays ((pdats ℕ UU ℕ W O 1 d).arrAt · cfg2.N)
              ∗ (∃ Wt' : Waits sig (HIx 3), ⌜(↑Wt' : Set (SemLoc sig × HIx 3)) ⊆ (O 1 d).2 ∪ cfg2.waitPairs (none : HIx 3)⌝ ∗ owes (T d : Thread nD τ) (O 1 d).1 Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 1)) ()) >>= k) Φ := by
  iintro ⟨Hb, Ha, HO, Hlev, Hg, Ht, Hk⟩
  iapply (wp_regionSeg W O lv (reg1 W O 𝒱₀ (none : HIx 3) (K (F := F)).L lv (hwaits1 W O lv hO hlv)) d k Φ)
  isplitl [Hb]; · iexact Hb
  isplitl [Ha HO]
  · iapply (pre_intro1 W O lv (hwaits1 W O lv hO hlv) d Wt hWt)
    isplitl [Ha]; · iexact Ha
    iexact HO
  isplitl [Hlev]; · iexact Hlev
  isplitl [Hg]; · iexact Hg
  isplitl [Ht]; · iexact Ht
  iintro ⟨Hb, Hpost⟩
  iapply Hk
  isplitl [Hb]; · iexact Hb
  iapply (post_elim1 W O lv (hwaits1 W O lv hO hlv) d)
  iexact Hpost

/-- The thread state region 2 is entered from, made of its arrays and the core's plain debts (the wait pairs recorded so
    far within the proof data's bound); and what it is left in, read back: the wait pairs recorded by then are the
    earlier ones and the pipeline's own. -/
theorem pre_intro2 (hw : ∀ c, (levAts (K (F := F)).L lv : sProp 𝕄) ⊢ Pipeline.cellsWaits (Pipeline.pin (pcfgs (F := F)) adm) (pdats ℕ UU ℕ W O) (none : HIx 3) 2 c)
    (d : Dev nD) (Wt : Waits sig (HIx 3)) (hWt : (↑Wt : Set (SemLoc sig × HIx 3)) ⊆ (O 2 d).2) :
    iprop((pdats ℕ UU ℕ W O 2 d).arrays ((pdats ℕ UU ℕ W O 2 d).arrAt · 0) ∗ owes (T d : Thread nD τ) (O 2 d).1 Wt)
      ⊢ (reg2 W O 𝒱₀ (none : HIx 3) (K (F := F)).L lv hw).pre d := by
  show _ ⊢ iprop((pdats ℕ UU ℕ W O 2 d).arrays ((pdats ℕ UU ℕ W O 2 d).arrAt · 0) ∗ (pdats ℕ UU ℕ W O 2 d).owesAt (none : HIx 3) 0)
  iintro ⟨Ha, HO⟩
  isplitl [Ha]; · iexact Ha
  unfold Pipeline.Dat.owesAt Pipeline.owesWithin
  iexists Wt; isplitr; · ipureintro; exact fun x hx => Or.inl (hWt hx)
  iexact HO
theorem post_elim2 (hw : ∀ c, (levAts (K (F := F)).L lv : sProp 𝕄) ⊢ Pipeline.cellsWaits (Pipeline.pin (pcfgs (F := F)) adm) (pdats ℕ UU ℕ W O) (none : HIx 3) 2 c)
    (d : Dev nD) :
    (reg2 W O 𝒱₀ (none : HIx 3) (K (F := F)).L lv hw).post d
      ⊢ iprop((pdats ℕ UU ℕ W O 2 d).arrays ((pdats ℕ UU ℕ W O 2 d).arrAt · cfg4.N)
          ∗ (∃ Wt' : Waits sig (HIx 3), ⌜(↑Wt' : Set (SemLoc sig × HIx 3)) ⊆ (O 2 d).2 ∪ cfg4.waitPairs (none : HIx 3)⌝ ∗ owes (T d : Thread nD τ) (O 2 d).1 Wt')) := by
  show iprop((pdats ℕ UU ℕ W O 2 d).arrays ((pdats ℕ UU ℕ W O 2 d).arrAt · cfg4.N) ∗ (pdats ℕ UU ℕ W O 2 d).owesAt (none : HIx 3) (Fin.last cfg4.N)) ⊢ _
  iintro ⟨Ha, HO⟩
  isplitl [Ha]; · iexact Ha
  unfold Pipeline.Dat.owesAt Pipeline.owesWithin
  icases HO with ⟨%W', %hW', HO⟩
  iexists W'; isplitr; · ipureintro; exact hW'
  iexact HO

-- a library lemma stated over the pinned configuration unifies with the printed one only when unification may unfold
-- plain definitions in a metavariable's type
set_option backward.isDefEq.respectTransparency.types false in
/-- REGION 2 in the whole program: from the boundary, its arrays at the entry contents `W 2`, the level facts, the
    pipeline's staging-cell ghost state and the core owing `(O 2 d).1`, the call runs on to its continuation from the
    boundary, the arrays at what the write-backs leave (read by the region's value lemmas), and the same debts, the
    wait pairs recorded meanwhile being the pipeline's own. -/
theorem wp_region2 (hO : ∀ p d g, (O p d).1 g none = 0) (hlv : (K (F := F)).Refines lv) (d : Dev nD) (Wt : Waits sig (HIx 3))
    (hWt : (↑Wt : Set (SemLoc sig × HIx 3)) ⊆ (O 2 d).2) {α : Type}
    (k : PUnit → Prog (TpuEff nD τ sig (Elt F) (SparseCore.Sig (ΛP (F := F)) 3) .tc) α) (Φ : α → sProp 𝕄) :
    iprop(boundary (T d : Thread nD τ)
        ∗ (pdats ℕ UU ℕ W O 2 d).arrays ((pdats ℕ UU ℕ W O 2 d).arrAt · 0)
        ∗ owes (T d : Thread nD τ) (O 2 d).1 Wt
        ∗ levAts (K (F := F)).L lv
        ∗ Pipeline.cellsGhost (Pipeline.pin (pcfgs (F := F)) adm) ER 2 d ∗ Pipeline.toksInit (Pipeline.pin (pcfgs (F := F)) adm) ER 2 d
        ∗ (iprop(boundary (T d : Thread nD τ)
              ∗ (pdats ℕ UU ℕ W O 2 d).arrays ((pdats ℕ UU ℕ W O 2 d).arrAt · cfg4.N)
              ∗ (∃ Wt' : Waits sig (HIx 3), ⌜(↑Wt' : Set (SemLoc sig × HIx 3)) ⊆ (O 2 d).2 ∪ cfg4.waitPairs (none : HIx 3)⌝ ∗ owes (T d : Thread nD τ) (O 2 d).1 Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 2)) ()) >>= k) Φ := by
  iintro ⟨Hb, Ha, HO, Hlev, Hg, Ht, Hk⟩
  iapply (wp_regionSeg W O lv (reg2 W O 𝒱₀ (none : HIx 3) (K (F := F)).L lv (hwaits2 W O lv hO hlv)) d k Φ)
  isplitl [Hb]; · iexact Hb
  isplitl [Ha HO]
  · iapply (pre_intro2 W O lv (hwaits2 W O lv hO hlv) d Wt hWt)
    isplitl [Ha]; · iexact Ha
    iexact HO
  isplitl [Hlev]; · iexact Hlev
  isplitl [Hg]; · iexact Hg
  isplitl [Ht]; · iexact Ht
  iintro ⟨Hb, Hpost⟩
  iapply Hk
  isplitl [Hb]; · iexact Hb
  iapply (post_elim2 W O lv (hwaits2 W O lv hO hlv) d)
  iexact Hpost

/-- The thread state region 3 is entered from, made of its arrays and the core's plain debts (the wait pairs recorded so
    far within the proof data's bound); and what it is left in, read back: the wait pairs recorded by then are the
    earlier ones and the pipeline's own. -/
theorem pre_intro3 (hw : ∀ c, (levAts (K (F := F)).L lv : sProp 𝕄) ⊢ Pipeline.cellsWaits (Pipeline.pin (pcfgs (F := F)) adm) (pdats ℕ UU ℕ W O) (none : HIx 3) 3 c)
    (d : Dev nD) (Wt : Waits sig (HIx 3)) (hWt : (↑Wt : Set (SemLoc sig × HIx 3)) ⊆ (O 3 d).2) :
    iprop((pdats ℕ UU ℕ W O 3 d).arrays ((pdats ℕ UU ℕ W O 3 d).arrAt · 0) ∗ owes (T d : Thread nD τ) (O 3 d).1 Wt)
      ⊢ (reg3 W O 𝒱₀ (none : HIx 3) (K (F := F)).L lv hw).pre d := by
  show _ ⊢ iprop((pdats ℕ UU ℕ W O 3 d).arrays ((pdats ℕ UU ℕ W O 3 d).arrAt · 0) ∗ (pdats ℕ UU ℕ W O 3 d).owesAt (none : HIx 3) 0)
  iintro ⟨Ha, HO⟩
  isplitl [Ha]; · iexact Ha
  unfold Pipeline.Dat.owesAt Pipeline.owesWithin
  iexists Wt; isplitr; · ipureintro; exact fun x hx => Or.inl (hWt hx)
  iexact HO
theorem post_elim3 (hw : ∀ c, (levAts (K (F := F)).L lv : sProp 𝕄) ⊢ Pipeline.cellsWaits (Pipeline.pin (pcfgs (F := F)) adm) (pdats ℕ UU ℕ W O) (none : HIx 3) 3 c)
    (d : Dev nD) :
    (reg3 W O 𝒱₀ (none : HIx 3) (K (F := F)).L lv hw).post d
      ⊢ iprop((pdats ℕ UU ℕ W O 3 d).arrays ((pdats ℕ UU ℕ W O 3 d).arrAt · cfg6.N)
          ∗ (∃ Wt' : Waits sig (HIx 3), ⌜(↑Wt' : Set (SemLoc sig × HIx 3)) ⊆ (O 3 d).2 ∪ cfg6.waitPairs (none : HIx 3)⌝ ∗ owes (T d : Thread nD τ) (O 3 d).1 Wt')) := by
  show iprop((pdats ℕ UU ℕ W O 3 d).arrays ((pdats ℕ UU ℕ W O 3 d).arrAt · cfg6.N) ∗ (pdats ℕ UU ℕ W O 3 d).owesAt (none : HIx 3) (Fin.last cfg6.N)) ⊢ _
  iintro ⟨Ha, HO⟩
  isplitl [Ha]; · iexact Ha
  unfold Pipeline.Dat.owesAt Pipeline.owesWithin
  icases HO with ⟨%W', %hW', HO⟩
  iexists W'; isplitr; · ipureintro; exact hW'
  iexact HO

-- a library lemma stated over the pinned configuration unifies with the printed one only when unification may unfold
-- plain definitions in a metavariable's type
set_option backward.isDefEq.respectTransparency.types false in
/-- REGION 3 in the whole program: from the boundary, its arrays at the entry contents `W 3`, the level facts, the
    pipeline's staging-cell ghost state and the core owing `(O 3 d).1`, the call runs on to its continuation from the
    boundary, the arrays at what the write-backs leave (read by the region's value lemmas), and the same debts, the
    wait pairs recorded meanwhile being the pipeline's own. -/
theorem wp_region3 (hO : ∀ p d g, (O p d).1 g none = 0) (hlv : (K (F := F)).Refines lv) (d : Dev nD) (Wt : Waits sig (HIx 3))
    (hWt : (↑Wt : Set (SemLoc sig × HIx 3)) ⊆ (O 3 d).2) {α : Type}
    (k : PUnit → Prog (TpuEff nD τ sig (Elt F) (SparseCore.Sig (ΛP (F := F)) 3) .tc) α) (Φ : α → sProp 𝕄) :
    iprop(boundary (T d : Thread nD τ)
        ∗ (pdats ℕ UU ℕ W O 3 d).arrays ((pdats ℕ UU ℕ W O 3 d).arrAt · 0)
        ∗ owes (T d : Thread nD τ) (O 3 d).1 Wt
        ∗ levAts (K (F := F)).L lv
        ∗ Pipeline.cellsGhost (Pipeline.pin (pcfgs (F := F)) adm) ER 3 d ∗ Pipeline.toksInit (Pipeline.pin (pcfgs (F := F)) adm) ER 3 d
        ∗ (iprop(boundary (T d : Thread nD τ)
              ∗ (pdats ℕ UU ℕ W O 3 d).arrays ((pdats ℕ UU ℕ W O 3 d).arrAt · cfg6.N)
              ∗ (∃ Wt' : Waits sig (HIx 3), ⌜(↑Wt' : Set (SemLoc sig × HIx 3)) ⊆ (O 3 d).2 ∪ cfg6.waitPairs (none : HIx 3)⌝ ∗ owes (T d : Thread nD τ) (O 3 d).1 Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 3)) ()) >>= k) Φ := by
  iintro ⟨Hb, Ha, HO, Hlev, Hg, Ht, Hk⟩
  iapply (wp_regionSeg W O lv (reg3 W O 𝒱₀ (none : HIx 3) (K (F := F)).L lv (hwaits3 W O lv hO hlv)) d k Φ)
  isplitl [Hb]; · iexact Hb
  isplitl [Ha HO]
  · iapply (pre_intro3 W O lv (hwaits3 W O lv hO hlv) d Wt hWt)
    isplitl [Ha]; · iexact Ha
    iexact HO
  isplitl [Hlev]; · iexact Hlev
  isplitl [Hg]; · iexact Hg
  isplitl [Ht]; · iexact Ht
  iintro ⟨Hb, Hpost⟩
  iapply Hk
  isplitl [Hb]; · iexact Hb
  iapply (post_elim3 W O lv (hwaits3 W O lv hO hlv) d)
  iexact Hpost

end Lift

end Cert.Proof.KI

end
-- ==== Proof.TcHeld.lean ====
import proofs.«205366_g3083786518796_cont_9to1_852_38_alg».proof.Proof.TcLift
import proofs.«205366_g3083786518796_cont_9to1_852_38_alg».proof.Proof.TcZValue
import proofs.«205366_g3083786518796_cont_9to1_852_38_alg».proof.Proof.TcFused1Value
import proofs.«205366_g3083786518796_cont_9to1_852_38_alg».proof.Proof.TcFused2Value
import proofs.«205366_g3083786518796_cont_9to1_852_38_alg».proof.Proof.TcOutValue
import Idealize.ShloMosaic.Lib.Pipeline.RegionsLoop

set_option maxRecDepth 16384

noncomputable section

/-!
# The regions over the thread state "every unscoped array of the TensorCore at a valuation"

Between the steps of the program the TensorCore holds all its unscoped arrays at one valuation.  A region takes its
windows' arrays out of that set, runs, and puts them back: the outputs at the region's whole-array functions of the
inputs as the valuation had them, everything else unchanged.
-/

namespace Cert.Proof.KI

open Cert.KernelIdeal Cert.KernelIdeal.Gen Cert.KernelIdeal.Regions

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.StableHlo (held)

variable {F : FTy → Type} [FloatOps F]

local notation "𝕄" => MT nD τ sig (HIx 3) (Elt F) ℕ UU ℕ

/-- The TensorCore's unscoped arrays: the program's 37 values. -/
def Sall : Finset (DevRef τ sig) := (Finset.univ.filter fun b : Ref sig .tc => ¬ b.isScoped).image (Proc.devRef .tc)

theorem mem_Sall {b : Ref sig .tc} (h : b.isScoped = false) : Proc.devRef .tc b ∈ (Sall : Finset (DevRef τ sig)) :=
  Finset.mem_image.mpr ⟨b, Finset.mem_filter.mpr ⟨Finset.mem_univ _, by rw [h]; exact Bool.false_ne_true⟩, rfl⟩

/-- The core's unscoped buffers at a valuation are that set held at it. -/
theorem unscopedBufs_Sall (d : Dev nD) (V : Valuation τ sig (Elt F)) :
    (unscopedBufs d (fun b => V (Proc.devRef .tc b)) : sProp 𝕄) = held (T d : Thread nD τ) Sall V := by
  unfold unscopedBufs held Sall
  rw [SparseCore.bigSep_image_of_injOn (fun a _ b _ h => Proc.devRef_injective _ h)]

/-- A valuation read at the TensorCore's references; one debt and one set of recorded wait pairs for every core and region. -/
abbrev Wf (V : Valuation τ sig (Elt F)) : Fin 4 → (c : Dev nD) → (b : Ref sig .tc) → Buf (Elt F) ((c : Thread nD τ).loc b) :=
  fun _ _ b => V (Proc.devRef .tc b)
abbrev Of (O : CellTallies nD τ sig (HIx 3)) (Wt : Waits sig (HIx 3)) : Fin 4 → Dev nD → CellTallies nD τ sig (HIx 3) × Set (SemLoc sig × HIx 3) :=
  fun _ _ => (O, (↑Wt : Set (SemLoc sig × HIx 3)))

/-! ## Region 0 -/

/-- The valuation after region 0: its output array at the region's function of the inputs, every other buffer as it was. -/
def V0' (V : Valuation τ sig (Elt F)) : Valuation τ sig (Elt F) :=
  Function.update (V) (Proc.devRef .tc main_v9) (Z0 (V (Proc.devRef .tc main_arg0)) (V (Proc.devRef .tc main_arg2)) (V (Proc.devRef .tc main_arg4)))

theorem V0'_out3 (V : Valuation τ sig (Elt F)) : V0' V (Proc.devRef .tc main_v9) = Z0 (V (Proc.devRef .tc main_arg0)) (V (Proc.devRef .tc main_arg2)) (V (Proc.devRef .tc main_arg4)) :=
  Function.update_self _ _ _
theorem V0'_of_ne (V : Valuation τ sig (Elt F)) (b : DevRef τ sig) (h3 : b ≠ Proc.devRef .tc main_v9) : V0' V b = V b :=
  Function.update_of_ne h3 _ _

-- a library lemma stated over the pinned configuration unifies with the printed one only when unification may unfold
-- plain definitions in a metavariable's type
set_option backward.isDefEq.respectTransparency.types false in
/-- REGION 0 over the thread state "every unscoped array at a valuation": the region's arrays are split out of the
    held set at entry and put back at exit at the updated valuation; the other arrays ride along untouched. -/
theorem wp_region_held0 (V : Valuation τ sig (Elt F)) (O : CellTallies nD τ sig (HIx 3)) (hO : ∀ g, O g none = 0)
    (lv : GSem nD τ sig → HIx 3 → ℕ) (hlv : (K (F := F)).Refines lv) (d : Dev nD) (Wt : Waits sig (HIx 3)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall V ∗ owes (T d : Thread nD τ) O Wt
        ∗ levAts (K (F := F)).L lv
        ∗ Pipeline.cellsGhost (Pipeline.pin (pcfgs (F := F)) adm) ER 0 d ∗ Pipeline.toksInit (Pipeline.pin (pcfgs (F := F)) adm) ER 0 d
        ∗ (iprop(boundary (T d : Thread nD τ) ∗ held (T d : Thread nD τ) Sall (V0' V) ∗ (∃ Wt' : Waits sig (HIx 3), ⌜∀ p ∈ Wt', p ∈ Wt ∨ p.2 = none⌝ ∗ owes (T d : Thread nD τ) O Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 0)) ()) >>= k) Φ := by
  have hsplit := Pipeline.arrays_of_unscopedBufs (p := 0) (pcfgs (F := F)) adm (pdats ℕ UU ℕ (Wf V) (Of O Wt)) launch1.win launch1.arr_whole d
    ((pdats ℕ UU ℕ (Wf V) (Of O Wt) 0 d).share_full fun _ => rfl) (fun b => V (Proc.devRef .tc b)) fun _ => rfl
  rw [unscopedBufs_Sall] at hsplit
  have hF : ∀ w, (pdats ℕ UU ℕ (Wf V) (Of O Wt) 0 d).arrAt w cfg1.N = V0' V (Proc.devRef .tc (Pipeline.arrRef spec1 w)) := fun w => by
    match w with
    | ⟨0, _⟩ => exact (kept0 (Wf V 0) (O, (↑Wt : Set (SemLoc sig × HIx 3))) d 0 rfl _).trans (V0'_of_ne V _ (fun h => absurd (Proc.devRef_injective _ h) (by decide) : (Proc.devRef .tc main_arg0 : DevRef τ sig) ≠ Proc.devRef .tc main_v9)).symm
    | ⟨1, _⟩ => exact (kept0 (Wf V 0) (O, (↑Wt : Set (SemLoc sig × HIx 3))) d 1 rfl _).trans (V0'_of_ne V _ (fun h => absurd (Proc.devRef_injective _ h) (by decide) : (Proc.devRef .tc main_arg2 : DevRef τ sig) ≠ Proc.devRef .tc main_v9)).symm
    | ⟨2, _⟩ => exact (kept0 (Wf V 0) (O, (↑Wt : Set (SemLoc sig × HIx 3))) d 2 rfl _).trans (V0'_of_ne V _ (fun h => absurd (Proc.devRef_injective _ h) (by decide) : (Proc.devRef .tc main_arg4 : DevRef τ sig) ≠ Proc.devRef .tc main_v9)).symm
    | ⟨3, _⟩ => exact (final0 (Wf V 0) (O, (↑Wt : Set (SemLoc sig × HIx 3))) d).trans (V0'_out3 V).symm
  have hrest : ∀ b, b ∉ Finset.univ.image (Pipeline.arrRef spec1) → V0' V (Proc.devRef .tc b) = V (Proc.devRef .tc b) :=
    fun b hb => V0'_of_ne V _ (fun h => hb (by rw [Proc.devRef_injective _ h]; exact Finset.mem_image.mpr ⟨3, Finset.mem_univ _, rfl⟩))
  have hjoin := Pipeline.unscopedBufs_of_arrays (p := 0) (pcfgs (F := F)) adm (Ix := HIx 3) (Name := ℕ) (U := UU) (Lvl := ℕ)
    launch1.win launch1.arr_whole d (pdats ℕ UU ℕ (Wf V) (Of O Wt)) ((pdats ℕ UU ℕ (Wf V) (Of O Wt) 0 d).share_full fun _ => rfl)
    (fun b => V (Proc.devRef .tc b)) (fun b => V0' V (Proc.devRef .tc b)) ((pdats ℕ UU ℕ (Wf V) (Of O Wt) 0 d).arrAt · cfg1.N) hF hrest
  rw [unscopedBufs_Sall] at hjoin
  iintro ⟨Hb, Hh, HO, Hlev, Hg, Ht, Hk⟩
  ihave H := hsplit $$ Hh
  icases H with ⟨Ha, Hrest⟩
  iapply (wp_region0 (Wf V) (Of O Wt) lv (fun _ _ g => hO g) hlv d Wt (fun _ h => h) k Φ)
  isplitl [Hb]; · iexact Hb
  isplitl [Ha]; · iexact Ha
  isplitl [HO]; · iexact HO
  isplitl [Hlev]; · iexact Hlev
  isplitl [Hg]; · iexact Hg
  isplitl [Ht]; · iexact Ht
  iintro ⟨Hb, Ha, HO⟩
  iapply Hk
  isplitl [Hb]; · iexact Hb
  isplitl [Ha Hrest]
  · iapply hjoin
    isplitl [Ha]; · iexact Ha
    iexact Hrest
  icases HO with ⟨%W', %hW', HO⟩
  iexists W'; isplitr
  · ipureintro
    exact fun p hp => (hW' (Finset.mem_coe.mpr hp)).imp Finset.mem_coe.mp (fun ⟨_, _, e⟩ => congrArg Prod.snd e)
  iexact HO

/-! ## Region 1 -/

/-- The valuation after region 1: its output arrays at the region's functions of the inputs, every other buffer as it was. -/
def V1' (V : Valuation τ sig (Elt F)) : Valuation τ sig (Elt F) :=
  Function.update (Function.update (V) (Proc.devRef .tc main_v11_0) (H1 (V (Proc.devRef .tc main_v9)) (V (Proc.devRef .tc main_v8)) (V (Proc.devRef .tc main_arg3)) (V (Proc.devRef .tc main_v10)))) (Proc.devRef .tc main_v11_1) (ZN1 (V (Proc.devRef .tc main_v9)) (V (Proc.devRef .tc main_v8)) (V (Proc.devRef .tc main_arg3)) (V (Proc.devRef .tc main_v10)) (V (Proc.devRef .tc main_arg6)) (V (Proc.devRef .tc main_arg8)))

theorem V1'_out6 (V : Valuation τ sig (Elt F)) : V1' V (Proc.devRef .tc main_v11_0) = H1 (V (Proc.devRef .tc main_v9)) (V (Proc.devRef .tc main_v8)) (V (Proc.devRef .tc main_arg3)) (V (Proc.devRef .tc main_v10)) :=
  (Function.update_of_ne (fun h => absurd (Proc.devRef_injective _ h) (by decide) : (Proc.devRef .tc main_v11_0 : DevRef τ sig) ≠ Proc.devRef .tc main_v11_1) _ _).trans (Function.update_self _ _ _)
theorem V1'_out7 (V : Valuation τ sig (Elt F)) : V1' V (Proc.devRef .tc main_v11_1) = ZN1 (V (Proc.devRef .tc main_v9)) (V (Proc.devRef .tc main_v8)) (V (Proc.devRef .tc main_arg3)) (V (Proc.devRef .tc main_v10)) (V (Proc.devRef .tc main_arg6)) (V (Proc.devRef .tc main_arg8)) :=
  Function.update_self _ _ _
theorem V1'_of_ne (V : Valuation τ sig (Elt F)) (b : DevRef τ sig) (h6 : b ≠ Proc.devRef .tc main_v11_0) (h7 : b ≠ Proc.devRef .tc main_v11_1) : V1' V b = V b :=
  (Function.update_of_ne h7 _ _).trans (Function.update_of_ne h6 _ _)

-- a library lemma stated over the pinned configuration unifies with the printed one only when unification may unfold
-- plain definitions in a metavariable's type
set_option backward.isDefEq.respectTransparency.types false in
/-- REGION 1 over the thread state "every unscoped array at a valuation": the region's arrays are split out of the
    held set at entry and put back at exit at the updated valuation; the other arrays ride along untouched. -/
theorem wp_region_held1 (V : Valuation τ sig (Elt F)) (O : CellTallies nD τ sig (HIx 3)) (hO : ∀ g, O g none = 0)
    (lv : GSem nD τ sig → HIx 3 → ℕ) (hlv : (K (F := F)).Refines lv) (d : Dev nD) (Wt : Waits sig (HIx 3)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall V ∗ owes (T d : Thread nD τ) O Wt
        ∗ levAts (K (F := F)).L lv
        ∗ Pipeline.cellsGhost (Pipeline.pin (pcfgs (F := F)) adm) ER 1 d ∗ Pipeline.toksInit (Pipeline.pin (pcfgs (F := F)) adm) ER 1 d
        ∗ (iprop(boundary (T d : Thread nD τ) ∗ held (T d : Thread nD τ) Sall (V1' V) ∗ (∃ Wt' : Waits sig (HIx 3), ⌜∀ p ∈ Wt', p ∈ Wt ∨ p.2 = none⌝ ∗ owes (T d : Thread nD τ) O Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 1)) ()) >>= k) Φ := by
  have hsplit := Pipeline.arrays_of_unscopedBufs (p := 1) (pcfgs (F := F)) adm (pdats ℕ UU ℕ (Wf V) (Of O Wt)) launch2.win launch2.arr_whole d
    ((pdats ℕ UU ℕ (Wf V) (Of O Wt) 1 d).share_full fun _ => rfl) (fun b => V (Proc.devRef .tc b)) fun _ => rfl
  rw [unscopedBufs_Sall] at hsplit
  have hF : ∀ w, (pdats ℕ UU ℕ (Wf V) (Of O Wt) 1 d).arrAt w cfg2.N = V1' V (Proc.devRef .tc (Pipeline.arrRef spec2 w)) := fun w => by
    match w with
    | ⟨0, _⟩ => exact (kept1 (Wf V 1) (O, (↑Wt : Set (SemLoc sig × HIx 3))) d 0 rfl _).trans (V1'_of_ne V _ (fun h => absurd (Proc.devRef_injective _ h) (by decide) : (Proc.devRef .tc main_v9 : DevRef τ sig) ≠ Proc.devRef .tc main_v11_0) (fun h => absurd (Proc.devRef_injective _ h) (by decide) : (Proc.devRef .tc main_v9 : DevRef τ sig) ≠ Proc.devRef .tc main_v11_1)).symm
    | ⟨1, _⟩ => exact (kept1 (Wf V 1) (O, (↑Wt : Set (SemLoc sig × HIx 3))) d 1 rfl _).trans (V1'_of_ne V _ (fun h => absurd (Proc.devRef_injective _ h) (by decide) : (Proc.devRef .tc main_v8 : DevRef τ sig) ≠ Proc.devRef .tc main_v11_0) (fun h => absurd (Proc.devRef_injective _ h) (by decide) : (Proc.devRef .tc main_v8 : DevRef τ sig) ≠ Proc.devRef .tc main_v11_1)).symm
    | ⟨2, _⟩ => exact (kept1 (Wf V 1) (O, (↑Wt : Set (SemLoc sig × HIx 3))) d 2 rfl _).trans (V1'_of_ne V _ (fun h => absurd (Proc.devRef_injective _ h) (by decide) : (Proc.devRef .tc main_arg3 : DevRef τ sig) ≠ Proc.devRef .tc main_v11_0) (fun h => absurd (Proc.devRef_injective _ h) (by decide) : (Proc.devRef .tc main_arg3 : DevRef τ sig) ≠ Proc.devRef .tc main_v11_1)).symm
    | ⟨3, _⟩ => exact (kept1 (Wf V 1) (O, (↑Wt : Set (SemLoc sig × HIx 3))) d 3 rfl _).trans (V1'_of_ne V _ (fun h => absurd (Proc.devRef_injective _ h) (by decide) : (Proc.devRef .tc main_v10 : DevRef τ sig) ≠ Proc.devRef .tc main_v11_0) (fun h => absurd (Proc.devRef_injective _ h) (by decide) : (Proc.devRef .tc main_v10 : DevRef τ sig) ≠ Proc.devRef .tc main_v11_1)).symm
    | ⟨4, _⟩ => exact (kept1 (Wf V 1) (O, (↑Wt : Set (SemLoc sig × HIx 3))) d 4 rfl _).trans (V1'_of_ne V _ (fun h => absurd (Proc.devRef_injective _ h) (by decide) : (Proc.devRef .tc main_arg6 : DevRef τ sig) ≠ Proc.devRef .tc main_v11_0) (fun h => absurd (Proc.devRef_injective _ h) (by decide) : (Proc.devRef .tc main_arg6 : DevRef τ sig) ≠ Proc.devRef .tc main_v11_1)).symm
    | ⟨5, _⟩ => exact (kept1 (Wf V 1) (O, (↑Wt : Set (SemLoc sig × HIx 3))) d 5 rfl _).trans (V1'_of_ne V _ (fun h => absurd (Proc.devRef_injective _ h) (by decide) : (Proc.devRef .tc main_arg8 : DevRef τ sig) ≠ Proc.devRef .tc main_v11_0) (fun h => absurd (Proc.devRef_injective _ h) (by decide) : (Proc.devRef .tc main_arg8 : DevRef τ sig) ≠ Proc.devRef .tc main_v11_1)).symm
    | ⟨6, _⟩ => exact (final1_6 (Wf V 1) (O, (↑Wt : Set (SemLoc sig × HIx 3))) d).trans (V1'_out6 V).symm
    | ⟨7, _⟩ => exact (final1_7 (Wf V 1) (O, (↑Wt : Set (SemLoc sig × HIx 3))) d).trans (V1'_out7 V).symm
  have hrest : ∀ b, b ∉ Finset.univ.image (Pipeline.arrRef spec2) → V1' V (Proc.devRef .tc b) = V (Proc.devRef .tc b) :=
    fun b hb => V1'_of_ne V _ (fun h => hb (by rw [Proc.devRef_injective _ h]; exact Finset.mem_image.mpr ⟨6, Finset.mem_univ _, rfl⟩)) (fun h => hb (by rw [Proc.devRef_injective _ h]; exact Finset.mem_image.mpr ⟨7, Finset.mem_univ _, rfl⟩))
  have hjoin := Pipeline.unscopedBufs_of_arrays (p := 1) (pcfgs (F := F)) adm (Ix := HIx 3) (Name := ℕ) (U := UU) (Lvl := ℕ)
    launch2.win launch2.arr_whole d (pdats ℕ UU ℕ (Wf V) (Of O Wt)) ((pdats ℕ UU ℕ (Wf V) (Of O Wt) 1 d).share_full fun _ => rfl)
    (fun b => V (Proc.devRef .tc b)) (fun b => V1' V (Proc.devRef .tc b)) ((pdats ℕ UU ℕ (Wf V) (Of O Wt) 1 d).arrAt · cfg2.N) hF hrest
  rw [unscopedBufs_Sall] at hjoin
  iintro ⟨Hb, Hh, HO, Hlev, Hg, Ht, Hk⟩
  ihave H := hsplit $$ Hh
  icases H with ⟨Ha, Hrest⟩
  iapply (wp_region1 (Wf V) (Of O Wt) lv (fun _ _ g => hO g) hlv d Wt (fun _ h => h) k Φ)
  isplitl [Hb]; · iexact Hb
  isplitl [Ha]; · iexact Ha
  isplitl [HO]; · iexact HO
  isplitl [Hlev]; · iexact Hlev
  isplitl [Hg]; · iexact Hg
  isplitl [Ht]; · iexact Ht
  iintro ⟨Hb, Ha, HO⟩
  iapply Hk
  isplitl [Hb]; · iexact Hb
  isplitl [Ha Hrest]
  · iapply hjoin
    isplitl [Ha]; · iexact Ha
    iexact Hrest
  icases HO with ⟨%W', %hW', HO⟩
  iexists W'; isplitr
  · ipureintro
    exact fun p hp => (hW' (Finset.mem_coe.mpr hp)).imp Finset.mem_coe.mp (fun ⟨_, _, e⟩ => congrArg Prod.snd e)
  iexact HO

/-! ## Region 2 -/

/-- The valuation after region 2: its output arrays at the region's functions of the inputs, every other buffer as it was. -/
def V2' (V : Valuation τ sig (Elt F)) : Valuation τ sig (Elt F) :=
  Function.update (Function.update (V) (Proc.devRef .tc main_v14_0) (H2 (V (Proc.devRef .tc main_v11_1)) (V (Proc.devRef .tc main_v12)) (V (Proc.devRef .tc main_arg7)) (V (Proc.devRef .tc main_v13)))) (Proc.devRef .tc main_v14_1) (ZN2 (V (Proc.devRef .tc main_v11_1)) (V (Proc.devRef .tc main_v12)) (V (Proc.devRef .tc main_arg7)) (V (Proc.devRef .tc main_v13)) (V (Proc.devRef .tc main_arg10)) (V (Proc.devRef .tc main_arg12)))

theorem V2'_out6 (V : Valuation τ sig (Elt F)) : V2' V (Proc.devRef .tc main_v14_0) = H2 (V (Proc.devRef .tc main_v11_1)) (V (Proc.devRef .tc main_v12)) (V (Proc.devRef .tc main_arg7)) (V (Proc.devRef .tc main_v13)) :=
  (Function.update_of_ne (fun h => absurd (Proc.devRef_injective _ h) (by decide) : (Proc.devRef .tc main_v14_0 : DevRef τ sig) ≠ Proc.devRef .tc main_v14_1) _ _).trans (Function.update_self _ _ _)
theorem V2'_out7 (V : Valuation τ sig (Elt F)) : V2' V (Proc.devRef .tc main_v14_1) = ZN2 (V (Proc.devRef .tc main_v11_1)) (V (Proc.devRef .tc main_v12)) (V (Proc.devRef .tc main_arg7)) (V (Proc.devRef .tc main_v13)) (V (Proc.devRef .tc main_arg10)) (V (Proc.devRef .tc main_arg12)) :=
  Function.update_self _ _ _
theorem V2'_of_ne (V : Valuation τ sig (Elt F)) (b : DevRef τ sig) (h6 : b ≠ Proc.devRef .tc main_v14_0) (h7 : b ≠ Proc.devRef .tc main_v14_1) : V2' V b = V b :=
  (Function.update_of_ne h7 _ _).trans (Function.update_of_ne h6 _ _)

-- a library lemma stated over the pinned configuration unifies with the printed one only when unification may unfold
-- plain definitions in a metavariable's type
set_option backward.isDefEq.respectTransparency.types false in
/-- REGION 2 over the thread state "every unscoped array at a valuation": the region's arrays are split out of the
    held set at entry and put back at exit at the updated valuation; the other arrays ride along untouched. -/
theorem wp_region_held2 (V : Valuation τ sig (Elt F)) (O : CellTallies nD τ sig (HIx 3)) (hO : ∀ g, O g none = 0)
    (lv : GSem nD τ sig → HIx 3 → ℕ) (hlv : (K (F := F)).Refines lv) (d : Dev nD) (Wt : Waits sig (HIx 3)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall V ∗ owes (T d : Thread nD τ) O Wt
        ∗ levAts (K (F := F)).L lv
        ∗ Pipeline.cellsGhost (Pipeline.pin (pcfgs (F := F)) adm) ER 2 d ∗ Pipeline.toksInit (Pipeline.pin (pcfgs (F := F)) adm) ER 2 d
        ∗ (iprop(boundary (T d : Thread nD τ) ∗ held (T d : Thread nD τ) Sall (V2' V) ∗ (∃ Wt' : Waits sig (HIx 3), ⌜∀ p ∈ Wt', p ∈ Wt ∨ p.2 = none⌝ ∗ owes (T d : Thread nD τ) O Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 2)) ()) >>= k) Φ := by
  have hsplit := Pipeline.arrays_of_unscopedBufs (p := 2) (pcfgs (F := F)) adm (pdats ℕ UU ℕ (Wf V) (Of O Wt)) launch4.win launch4.arr_whole d
    ((pdats ℕ UU ℕ (Wf V) (Of O Wt) 2 d).share_full fun _ => rfl) (fun b => V (Proc.devRef .tc b)) fun _ => rfl
  rw [unscopedBufs_Sall] at hsplit
  have hF : ∀ w, (pdats ℕ UU ℕ (Wf V) (Of O Wt) 2 d).arrAt w cfg4.N = V2' V (Proc.devRef .tc (Pipeline.arrRef spec4 w)) := fun w => by
    match w with
    | ⟨0, _⟩ => exact (kept2 (Wf V 2) (O, (↑Wt : Set (SemLoc sig × HIx 3))) d 0 rfl _).trans (V2'_of_ne V _ (fun h => absurd (Proc.devRef_injective _ h) (by decide) : (Proc.devRef .tc main_v11_1 : DevRef τ sig) ≠ Proc.devRef .tc main_v14_0) (fun h => absurd (Proc.devRef_injective _ h) (by decide) : (Proc.devRef .tc main_v11_1 : DevRef τ sig) ≠ Proc.devRef .tc main_v14_1)).symm
    | ⟨1, _⟩ => exact (kept2 (Wf V 2) (O, (↑Wt : Set (SemLoc sig × HIx 3))) d 1 rfl _).trans (V2'_of_ne V _ (fun h => absurd (Proc.devRef_injective _ h) (by decide) : (Proc.devRef .tc main_v12 : DevRef τ sig) ≠ Proc.devRef .tc main_v14_0) (fun h => absurd (Proc.devRef_injective _ h) (by decide) : (Proc.devRef .tc main_v12 : DevRef τ sig) ≠ Proc.devRef .tc main_v14_1)).symm
    | ⟨2, _⟩ => exact (kept2 (Wf V 2) (O, (↑Wt : Set (SemLoc sig × HIx 3))) d 2 rfl _).trans (V2'_of_ne V _ (fun h => absurd (Proc.devRef_injective _ h) (by decide) : (Proc.devRef .tc main_arg7 : DevRef τ sig) ≠ Proc.devRef .tc main_v14_0) (fun h => absurd (Proc.devRef_injective _ h) (by decide) : (Proc.devRef .tc main_arg7 : DevRef τ sig) ≠ Proc.devRef .tc main_v14_1)).symm
    | ⟨3, _⟩ => exact (kept2 (Wf V 2) (O, (↑Wt : Set (SemLoc sig × HIx 3))) d 3 rfl _).trans (V2'_of_ne V _ (fun h => absurd (Proc.devRef_injective _ h) (by decide) : (Proc.devRef .tc main_v13 : DevRef τ sig) ≠ Proc.devRef .tc main_v14_0) (fun h => absurd (Proc.devRef_injective _ h) (by decide) : (Proc.devRef .tc main_v13 : DevRef τ sig) ≠ Proc.devRef .tc main_v14_1)).symm
    | ⟨4, _⟩ => exact (kept2 (Wf V 2) (O, (↑Wt : Set (SemLoc sig × HIx 3))) d 4 rfl _).trans (V2'_of_ne V _ (fun h => absurd (Proc.devRef_injective _ h) (by decide) : (Proc.devRef .tc main_arg10 : DevRef τ sig) ≠ Proc.devRef .tc main_v14_0) (fun h => absurd (Proc.devRef_injective _ h) (by decide) : (Proc.devRef .tc main_arg10 : DevRef τ sig) ≠ Proc.devRef .tc main_v14_1)).symm
    | ⟨5, _⟩ => exact (kept2 (Wf V 2) (O, (↑Wt : Set (SemLoc sig × HIx 3))) d 5 rfl _).trans (V2'_of_ne V _ (fun h => absurd (Proc.devRef_injective _ h) (by decide) : (Proc.devRef .tc main_arg12 : DevRef τ sig) ≠ Proc.devRef .tc main_v14_0) (fun h => absurd (Proc.devRef_injective _ h) (by decide) : (Proc.devRef .tc main_arg12 : DevRef τ sig) ≠ Proc.devRef .tc main_v14_1)).symm
    | ⟨6, _⟩ => exact (final2_6 (Wf V 2) (O, (↑Wt : Set (SemLoc sig × HIx 3))) d).trans (V2'_out6 V).symm
    | ⟨7, _⟩ => exact (final2_7 (Wf V 2) (O, (↑Wt : Set (SemLoc sig × HIx 3))) d).trans (V2'_out7 V).symm
  have hrest : ∀ b, b ∉ Finset.univ.image (Pipeline.arrRef spec4) → V2' V (Proc.devRef .tc b) = V (Proc.devRef .tc b) :=
    fun b hb => V2'_of_ne V _ (fun h => hb (by rw [Proc.devRef_injective _ h]; exact Finset.mem_image.mpr ⟨6, Finset.mem_univ _, rfl⟩)) (fun h => hb (by rw [Proc.devRef_injective _ h]; exact Finset.mem_image.mpr ⟨7, Finset.mem_univ _, rfl⟩))
  have hjoin := Pipeline.unscopedBufs_of_arrays (p := 2) (pcfgs (F := F)) adm (Ix := HIx 3) (Name := ℕ) (U := UU) (Lvl := ℕ)
    launch4.win launch4.arr_whole d (pdats ℕ UU ℕ (Wf V) (Of O Wt)) ((pdats ℕ UU ℕ (Wf V) (Of O Wt) 2 d).share_full fun _ => rfl)
    (fun b => V (Proc.devRef .tc b)) (fun b => V2' V (Proc.devRef .tc b)) ((pdats ℕ UU ℕ (Wf V) (Of O Wt) 2 d).arrAt · cfg4.N) hF hrest
  rw [unscopedBufs_Sall] at hjoin
  iintro ⟨Hb, Hh, HO, Hlev, Hg, Ht, Hk⟩
  ihave H := hsplit $$ Hh
  icases H with ⟨Ha, Hrest⟩
  iapply (wp_region2 (Wf V) (Of O Wt) lv (fun _ _ g => hO g) hlv d Wt (fun _ h => h) k Φ)
  isplitl [Hb]; · iexact Hb
  isplitl [Ha]; · iexact Ha
  isplitl [HO]; · iexact HO
  isplitl [Hlev]; · iexact Hlev
  isplitl [Hg]; · iexact Hg
  isplitl [Ht]; · iexact Ht
  iintro ⟨Hb, Ha, HO⟩
  iapply Hk
  isplitl [Hb]; · iexact Hb
  isplitl [Ha Hrest]
  · iapply hjoin
    isplitl [Ha]; · iexact Ha
    iexact Hrest
  icases HO with ⟨%W', %hW', HO⟩
  iexists W'; isplitr
  · ipureintro
    exact fun p hp => (hW' (Finset.mem_coe.mpr hp)).imp Finset.mem_coe.mp (fun ⟨_, _, e⟩ => congrArg Prod.snd e)
  iexact HO

/-! ## Region 3 -/

/-- The valuation after region 3: its output array at the region's function of the inputs, every other buffer as it was. -/
def V3' (V : Valuation τ sig (Elt F)) : Valuation τ sig (Elt F) :=
  Function.update (V) (Proc.devRef .tc main_v17) (H3 (V (Proc.devRef .tc main_v14_1)) (V (Proc.devRef .tc main_v15)) (V (Proc.devRef .tc main_arg11)) (V (Proc.devRef .tc main_v16)))

theorem V3'_out4 (V : Valuation τ sig (Elt F)) : V3' V (Proc.devRef .tc main_v17) = H3 (V (Proc.devRef .tc main_v14_1)) (V (Proc.devRef .tc main_v15)) (V (Proc.devRef .tc main_arg11)) (V (Proc.devRef .tc main_v16)) :=
  Function.update_self _ _ _
theorem V3'_of_ne (V : Valuation τ sig (Elt F)) (b : DevRef τ sig) (h4 : b ≠ Proc.devRef .tc main_v17) : V3' V b = V b :=
  Function.update_of_ne h4 _ _

-- a library lemma stated over the pinned configuration unifies with the printed one only when unification may unfold
-- plain definitions in a metavariable's type
set_option backward.isDefEq.respectTransparency.types false in
/-- REGION 3 over the thread state "every unscoped array at a valuation": the region's arrays are split out of the
    held set at entry and put back at exit at the updated valuation; the other arrays ride along untouched. -/
theorem wp_region_held3 (V : Valuation τ sig (Elt F)) (O : CellTallies nD τ sig (HIx 3)) (hO : ∀ g, O g none = 0)
    (lv : GSem nD τ sig → HIx 3 → ℕ) (hlv : (K (F := F)).Refines lv) (d : Dev nD) (Wt : Waits sig (HIx 3)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall V ∗ owes (T d : Thread nD τ) O Wt
        ∗ levAts (K (F := F)).L lv
        ∗ Pipeline.cellsGhost (Pipeline.pin (pcfgs (F := F)) adm) ER 3 d ∗ Pipeline.toksInit (Pipeline.pin (pcfgs (F := F)) adm) ER 3 d
        ∗ (iprop(boundary (T d : Thread nD τ) ∗ held (T d : Thread nD τ) Sall (V3' V) ∗ (∃ Wt' : Waits sig (HIx 3), ⌜∀ p ∈ Wt', p ∈ Wt ∨ p.2 = none⌝ ∗ owes (T d : Thread nD τ) O Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 3)) ()) >>= k) Φ := by
  have hsplit := Pipeline.arrays_of_unscopedBufs (p := 3) (pcfgs (F := F)) adm (pdats ℕ UU ℕ (Wf V) (Of O Wt)) launch6.win launch6.arr_whole d
    ((pdats ℕ UU ℕ (Wf V) (Of O Wt) 3 d).share_full fun _ => rfl) (fun b => V (Proc.devRef .tc b)) fun _ => rfl
  rw [unscopedBufs_Sall] at hsplit
  have hF : ∀ w, (pdats ℕ UU ℕ (Wf V) (Of O Wt) 3 d).arrAt w cfg6.N = V3' V (Proc.devRef .tc (Pipeline.arrRef spec6 w)) := fun w => by
    match w with
    | ⟨0, _⟩ => exact (kept3 (Wf V 3) (O, (↑Wt : Set (SemLoc sig × HIx 3))) d 0 rfl _).trans (V3'_of_ne V _ (fun h => absurd (Proc.devRef_injective _ h) (by decide) : (Proc.devRef .tc main_v14_1 : DevRef τ sig) ≠ Proc.devRef .tc main_v17)).symm
    | ⟨1, _⟩ => exact (kept3 (Wf V 3) (O, (↑Wt : Set (SemLoc sig × HIx 3))) d 1 rfl _).trans (V3'_of_ne V _ (fun h => absurd (Proc.devRef_injective _ h) (by decide) : (Proc.devRef .tc main_v15 : DevRef τ sig) ≠ Proc.devRef .tc main_v17)).symm
    | ⟨2, _⟩ => exact (kept3 (Wf V 3) (O, (↑Wt : Set (SemLoc sig × HIx 3))) d 2 rfl _).trans (V3'_of_ne V _ (fun h => absurd (Proc.devRef_injective _ h) (by decide) : (Proc.devRef .tc main_arg11 : DevRef τ sig) ≠ Proc.devRef .tc main_v17)).symm
    | ⟨3, _⟩ => exact (kept3 (Wf V 3) (O, (↑Wt : Set (SemLoc sig × HIx 3))) d 3 rfl _).trans (V3'_of_ne V _ (fun h => absurd (Proc.devRef_injective _ h) (by decide) : (Proc.devRef .tc main_v16 : DevRef τ sig) ≠ Proc.devRef .tc main_v17)).symm
    | ⟨4, _⟩ => exact (final3_4 (Wf V 3) (O, (↑Wt : Set (SemLoc sig × HIx 3))) d).trans (V3'_out4 V).symm
  have hrest : ∀ b, b ∉ Finset.univ.image (Pipeline.arrRef spec6) → V3' V (Proc.devRef .tc b) = V (Proc.devRef .tc b) :=
    fun b hb => V3'_of_ne V _ (fun h => hb (by rw [Proc.devRef_injective _ h]; exact Finset.mem_image.mpr ⟨4, Finset.mem_univ _, rfl⟩))
  have hjoin := Pipeline.unscopedBufs_of_arrays (p := 3) (pcfgs (F := F)) adm (Ix := HIx 3) (Name := ℕ) (U := UU) (Lvl := ℕ)
    launch6.win launch6.arr_whole d (pdats ℕ UU ℕ (Wf V) (Of O Wt)) ((pdats ℕ UU ℕ (Wf V) (Of O Wt) 3 d).share_full fun _ => rfl)
    (fun b => V (Proc.devRef .tc b)) (fun b => V3' V (Proc.devRef .tc b)) ((pdats ℕ UU ℕ (Wf V) (Of O Wt) 3 d).arrAt · cfg6.N) hF hrest
  rw [unscopedBufs_Sall] at hjoin
  iintro ⟨Hb, Hh, HO, Hlev, Hg, Ht, Hk⟩
  ihave H := hsplit $$ Hh
  icases H with ⟨Ha, Hrest⟩
  iapply (wp_region3 (Wf V) (Of O Wt) lv (fun _ _ g => hO g) hlv d Wt (fun _ h => h) k Φ)
  isplitl [Hb]; · iexact Hb
  isplitl [Ha]; · iexact Ha
  isplitl [HO]; · iexact HO
  isplitl [Hlev]; · iexact Hlev
  isplitl [Hg]; · iexact Hg
  isplitl [Ht]; · iexact Ht
  iintro ⟨Hb, Ha, HO⟩
  iapply Hk
  isplitl [Hb]; · iexact Hb
  isplitl [Ha Hrest]
  · iapply hjoin
    isplitl [Ha]; · iexact Ha
    iexact Hrest
  icases HO with ⟨%W', %hW', HO⟩
  iexists W'; isplitr
  · ipureintro
    exact fun p hp => (hW' (Finset.mem_coe.mpr hp)).imp Finset.mem_coe.mp (fun ⟨_, _, e⟩ => congrArg Prod.snd e)
  iexact HO

end Cert.Proof.KI

end
-- ==== Proof.ScVals.lean ====
/-
  The bookkeeping of @main's valuation: the contents of the TensorCore's arrays after each of the program's eleven
  steps — the host operations that lay the index table out, then three times a SparseCore call (the neighbour sums of
  the call's table), a reshape of the layer's bias into a row, and the TensorCore regions — each read back as the
  NAMED term of the launch memory it is: the index table, the tables, the neighbour sums, the regions' products and
  layers, at the end the program's result, and every argument array as the launch left it.
-/
import proofs.«205366_g3083786518796_cont_9to1_852_38_alg».proof.Proof.TcHeld
import proofs.«205366_g3083786518796_cont_9to1_852_38_alg».proof.Proof.ScNames
import proofs.«205366_g3083786518796_cont_9to1_852_38_alg».proof.Proof.HostPrefix

noncomputable section

namespace Cert.Proof.KI

open Cert.KernelIdeal Cert.KernelIdeal.Gen Cert.KernelIdeal.Regions

open Idealize.ShloMosaic
open Idealize.SL.Sem

variable {F : FTy → Type} [FloatOps F]

/-- Distinct TensorCore references are distinct device buffers. -/
theorem dne (a b : Ref sig .tc) (h : a ≠ b := by decide) : (Proc.devRef .tc a : DevRef τ sig) ≠ Proc.devRef .tc b :=
  StableHlo.devRef_ne_of_ne h

/-- The buffers the eleven host operations write. -/
abbrev preW : List (Ref sig .tc) :=
  [main_v0, main_v1, main_c, main_v2, main_v3, main_v4, main_c_0, main_v5, main_c_1, main_v6, main_v7]

open StableHlo in
theorem pre_writes : (Cert.KernelIdeal.HostPre.preOps (F := F)).Forall fun op => op.writes ⊆ (preW.map (Proc.devRef (τ := τ) .tc)).toFinset := by
  unfold Cert.KernelIdeal.HostPre.preOps
  simp only [List.Forall]
  refine ⟨?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- A buffer the host operations do not write keeps its contents through them. -/
theorem pre_keep (V : Valuation τ sig (Elt F)) (r : Ref sig .tc) (h : r ∉ preW) :
    StableHlo.after Cert.KernelIdeal.HostPre.preOps V (Proc.devRef .tc r) = V (Proc.devRef .tc r) :=
  StableHlo.after_of_writes_sub _ V pre_writes h

variable (m : (ℓ : Loc nD τ sig) → Buf (Elt F) ℓ) (d : Dev nD)

/-- The launch contents of device `d` as a valuation. -/
def W0 : Valuation τ sig (Elt F) := fun b => m (d, b)

theorem W0_arg0 : (W0 m d (Proc.devRef .tc main_arg0) : FVec F S10000x128 .f32) = argOf m d main_arg0 := rfl
theorem W0_arg1 : (W0 m d (Proc.devRef .tc main_arg1) : IVec S2x320000 32) = argOf m d main_arg1 := rfl
theorem W0_arg2 : (W0 m d (Proc.devRef .tc main_arg2) : FVec F S128x128 .f32) = argOf m d main_arg2 := rfl
theorem W0_arg3 : (W0 m d (Proc.devRef .tc main_arg3) : FVec F S128x128 .f32) = argOf m d main_arg3 := rfl
theorem W0_arg4 : (W0 m d (Proc.devRef .tc main_arg4) : FVec F S128x128 .f32) = argOf m d main_arg4 := rfl
theorem W0_arg5 : (W0 m d (Proc.devRef .tc main_arg5) : FVec F S128 .f32) = argOf m d main_arg5 := rfl
theorem W0_arg6 : (W0 m d (Proc.devRef .tc main_arg6) : FVec F S128x128 .f32) = argOf m d main_arg6 := rfl
theorem W0_arg7 : (W0 m d (Proc.devRef .tc main_arg7) : FVec F S128x128 .f32) = argOf m d main_arg7 := rfl
theorem W0_arg8 : (W0 m d (Proc.devRef .tc main_arg8) : FVec F S128x128 .f32) = argOf m d main_arg8 := rfl
theorem W0_arg9 : (W0 m d (Proc.devRef .tc main_arg9) : FVec F S128 .f32) = argOf m d main_arg9 := rfl
theorem W0_arg10 : (W0 m d (Proc.devRef .tc main_arg10) : FVec F S128x128 .f32) = argOf m d main_arg10 := rfl
theorem W0_arg11 : (W0 m d (Proc.devRef .tc main_arg11) : FVec F S128x128 .f32) = argOf m d main_arg11 := rfl
theorem W0_arg12 : (W0 m d (Proc.devRef .tc main_arg12) : FVec F S128x128 .f32) = argOf m d main_arg12 := rfl
theorem W0_arg13 : (W0 m d (Proc.devRef .tc main_arg13) : FVec F S128 .f32) = argOf m d main_arg13 := rfl

/-- After the host operations that lay the index table out. -/
def W1 : Valuation τ sig (Elt F) := StableHlo.after Cert.KernelIdeal.HostPre.preOps (W0 m d)
theorem W1_arg0 : (W1 m d (Proc.devRef .tc main_arg0) : FVec F S10000x128 .f32) = argOf m d main_arg0 :=
  (pre_keep _ main_arg0 (by decide)).trans (W0_arg0 m d)
theorem W1_arg1 : (W1 m d (Proc.devRef .tc main_arg1) : IVec S2x320000 32) = argOf m d main_arg1 :=
  (pre_keep _ main_arg1 (by decide)).trans (W0_arg1 m d)
theorem W1_arg2 : (W1 m d (Proc.devRef .tc main_arg2) : FVec F S128x128 .f32) = argOf m d main_arg2 :=
  (pre_keep _ main_arg2 (by decide)).trans (W0_arg2 m d)
theorem W1_arg3 : (W1 m d (Proc.devRef .tc main_arg3) : FVec F S128x128 .f32) = argOf m d main_arg3 :=
  (pre_keep _ main_arg3 (by decide)).trans (W0_arg3 m d)
theorem W1_arg4 : (W1 m d (Proc.devRef .tc main_arg4) : FVec F S128x128 .f32) = argOf m d main_arg4 :=
  (pre_keep _ main_arg4 (by decide)).trans (W0_arg4 m d)
theorem W1_arg5 : (W1 m d (Proc.devRef .tc main_arg5) : FVec F S128 .f32) = argOf m d main_arg5 :=
  (pre_keep _ main_arg5 (by decide)).trans (W0_arg5 m d)
theorem W1_arg6 : (W1 m d (Proc.devRef .tc main_arg6) : FVec F S128x128 .f32) = argOf m d main_arg6 :=
  (pre_keep _ main_arg6 (by decide)).trans (W0_arg6 m d)
theorem W1_arg7 : (W1 m d (Proc.devRef .tc main_arg7) : FVec F S128x128 .f32) = argOf m d main_arg7 :=
  (pre_keep _ main_arg7 (by decide)).trans (W0_arg7 m d)
theorem W1_arg8 : (W1 m d (Proc.devRef .tc main_arg8) : FVec F S128x128 .f32) = argOf m d main_arg8 :=
  (pre_keep _ main_arg8 (by decide)).trans (W0_arg8 m d)
theorem W1_arg9 : (W1 m d (Proc.devRef .tc main_arg9) : FVec F S128 .f32) = argOf m d main_arg9 :=
  (pre_keep _ main_arg9 (by decide)).trans (W0_arg9 m d)
theorem W1_arg10 : (W1 m d (Proc.devRef .tc main_arg10) : FVec F S128x128 .f32) = argOf m d main_arg10 :=
  (pre_keep _ main_arg10 (by decide)).trans (W0_arg10 m d)
theorem W1_arg11 : (W1 m d (Proc.devRef .tc main_arg11) : FVec F S128x128 .f32) = argOf m d main_arg11 :=
  (pre_keep _ main_arg11 (by decide)).trans (W0_arg11 m d)
theorem W1_arg12 : (W1 m d (Proc.devRef .tc main_arg12) : FVec F S128x128 .f32) = argOf m d main_arg12 :=
  (pre_keep _ main_arg12 (by decide)).trans (W0_arg12 m d)
theorem W1_arg13 : (W1 m d (Proc.devRef .tc main_arg13) : FVec F S128 .f32) = argOf m d main_arg13 :=
  (pre_keep _ main_arg13 (by decide)).trans (W0_arg13 m d)
theorem W1_v7 : (W1 m d (Proc.devRef .tc main_v7) : IVec S32x10496 32) = IbOf m d := by
  unfold W1; rw [Cert.KernelIdeal.HostPre.after_pre_v7]; rfl

/-- After the SparseCore call that writes main_v8: the neighbour sums of its table over the index table. -/
def W2 : Valuation τ sig (Elt F) :=
  Function.update (W1 m d) (Proc.devRef .tc main_v8) (gsumF (W1 m d (Proc.devRef .tc main_arg0)) (W1 m d (Proc.devRef .tc main_v7)))
theorem W2_arg0 : (W2 m d (Proc.devRef .tc main_arg0) : FVec F S10000x128 .f32) = argOf m d main_arg0 :=
  (Function.update_of_ne (dne main_arg0 main_v8) _ _).trans (W1_arg0 m d)
theorem W2_arg1 : (W2 m d (Proc.devRef .tc main_arg1) : IVec S2x320000 32) = argOf m d main_arg1 :=
  (Function.update_of_ne (dne main_arg1 main_v8) _ _).trans (W1_arg1 m d)
theorem W2_arg2 : (W2 m d (Proc.devRef .tc main_arg2) : FVec F S128x128 .f32) = argOf m d main_arg2 :=
  (Function.update_of_ne (dne main_arg2 main_v8) _ _).trans (W1_arg2 m d)
theorem W2_arg3 : (W2 m d (Proc.devRef .tc main_arg3) : FVec F S128x128 .f32) = argOf m d main_arg3 :=
  (Function.update_of_ne (dne main_arg3 main_v8) _ _).trans (W1_arg3 m d)
theorem W2_arg4 : (W2 m d (Proc.devRef .tc main_arg4) : FVec F S128x128 .f32) = argOf m d main_arg4 :=
  (Function.update_of_ne (dne main_arg4 main_v8) _ _).trans (W1_arg4 m d)
theorem W2_arg5 : (W2 m d (Proc.devRef .tc main_arg5) : FVec F S128 .f32) = argOf m d main_arg5 :=
  (Function.update_of_ne (dne main_arg5 main_v8) _ _).trans (W1_arg5 m d)
theorem W2_arg6 : (W2 m d (Proc.devRef .tc main_arg6) : FVec F S128x128 .f32) = argOf m d main_arg6 :=
  (Function.update_of_ne (dne main_arg6 main_v8) _ _).trans (W1_arg6 m d)
theorem W2_arg7 : (W2 m d (Proc.devRef .tc main_arg7) : FVec F S128x128 .f32) = argOf m d main_arg7 :=
  (Function.update_of_ne (dne main_arg7 main_v8) _ _).trans (W1_arg7 m d)
theorem W2_arg8 : (W2 m d (Proc.devRef .tc main_arg8) : FVec F S128x128 .f32) = argOf m d main_arg8 :=
  (Function.update_of_ne (dne main_arg8 main_v8) _ _).trans (W1_arg8 m d)
theorem W2_arg9 : (W2 m d (Proc.devRef .tc main_arg9) : FVec F S128 .f32) = argOf m d main_arg9 :=
  (Function.update_of_ne (dne main_arg9 main_v8) _ _).trans (W1_arg9 m d)
theorem W2_arg10 : (W2 m d (Proc.devRef .tc main_arg10) : FVec F S128x128 .f32) = argOf m d main_arg10 :=
  (Function.update_of_ne (dne main_arg10 main_v8) _ _).trans (W1_arg10 m d)
theorem W2_arg11 : (W2 m d (Proc.devRef .tc main_arg11) : FVec F S128x128 .f32) = argOf m d main_arg11 :=
  (Function.update_of_ne (dne main_arg11 main_v8) _ _).trans (W1_arg11 m d)
theorem W2_arg12 : (W2 m d (Proc.devRef .tc main_arg12) : FVec F S128x128 .f32) = argOf m d main_arg12 :=
  (Function.update_of_ne (dne main_arg12 main_v8) _ _).trans (W1_arg12 m d)
theorem W2_arg13 : (W2 m d (Proc.devRef .tc main_arg13) : FVec F S128 .f32) = argOf m d main_arg13 :=
  (Function.update_of_ne (dne main_arg13 main_v8) _ _).trans (W1_arg13 m d)
theorem W2_v7 : (W2 m d (Proc.devRef .tc main_v7) : IVec S32x10496 32) = IbOf m d :=
  (Function.update_of_ne (dne main_v7 main_v8) _ _).trans (W1_v7 m d)
theorem W2_v8 : (W2 m d (Proc.devRef .tc main_v8) : S10240x128.Idx → F .f32) = G0of m d := by
  unfold W2; rw [Function.update_self, W1_arg0, W1_v7]; rfl

/-- After the TensorCore region that writes main_v9. -/
def W3 : Valuation τ sig (Elt F) := V0' (W2 m d)
theorem W3_arg0 : (W3 m d (Proc.devRef .tc main_arg0) : FVec F S10000x128 .f32) = argOf m d main_arg0 :=
  (V0'_of_ne _ _ (dne main_arg0 main_v9)).trans (W2_arg0 m d)
theorem W3_arg1 : (W3 m d (Proc.devRef .tc main_arg1) : IVec S2x320000 32) = argOf m d main_arg1 :=
  (V0'_of_ne _ _ (dne main_arg1 main_v9)).trans (W2_arg1 m d)
theorem W3_arg2 : (W3 m d (Proc.devRef .tc main_arg2) : FVec F S128x128 .f32) = argOf m d main_arg2 :=
  (V0'_of_ne _ _ (dne main_arg2 main_v9)).trans (W2_arg2 m d)
theorem W3_arg3 : (W3 m d (Proc.devRef .tc main_arg3) : FVec F S128x128 .f32) = argOf m d main_arg3 :=
  (V0'_of_ne _ _ (dne main_arg3 main_v9)).trans (W2_arg3 m d)
theorem W3_arg4 : (W3 m d (Proc.devRef .tc main_arg4) : FVec F S128x128 .f32) = argOf m d main_arg4 :=
  (V0'_of_ne _ _ (dne main_arg4 main_v9)).trans (W2_arg4 m d)
theorem W3_arg5 : (W3 m d (Proc.devRef .tc main_arg5) : FVec F S128 .f32) = argOf m d main_arg5 :=
  (V0'_of_ne _ _ (dne main_arg5 main_v9)).trans (W2_arg5 m d)
theorem W3_arg6 : (W3 m d (Proc.devRef .tc main_arg6) : FVec F S128x128 .f32) = argOf m d main_arg6 :=
  (V0'_of_ne _ _ (dne main_arg6 main_v9)).trans (W2_arg6 m d)
theorem W3_arg7 : (W3 m d (Proc.devRef .tc main_arg7) : FVec F S128x128 .f32) = argOf m d main_arg7 :=
  (V0'_of_ne _ _ (dne main_arg7 main_v9)).trans (W2_arg7 m d)
theorem W3_arg8 : (W3 m d (Proc.devRef .tc main_arg8) : FVec F S128x128 .f32) = argOf m d main_arg8 :=
  (V0'_of_ne _ _ (dne main_arg8 main_v9)).trans (W2_arg8 m d)
theorem W3_arg9 : (W3 m d (Proc.devRef .tc main_arg9) : FVec F S128 .f32) = argOf m d main_arg9 :=
  (V0'_of_ne _ _ (dne main_arg9 main_v9)).trans (W2_arg9 m d)
theorem W3_arg10 : (W3 m d (Proc.devRef .tc main_arg10) : FVec F S128x128 .f32) = argOf m d main_arg10 :=
  (V0'_of_ne _ _ (dne main_arg10 main_v9)).trans (W2_arg10 m d)
theorem W3_arg11 : (W3 m d (Proc.devRef .tc main_arg11) : FVec F S128x128 .f32) = argOf m d main_arg11 :=
  (V0'_of_ne _ _ (dne main_arg11 main_v9)).trans (W2_arg11 m d)
theorem W3_arg12 : (W3 m d (Proc.devRef .tc main_arg12) : FVec F S128x128 .f32) = argOf m d main_arg12 :=
  (V0'_of_ne _ _ (dne main_arg12 main_v9)).trans (W2_arg12 m d)
theorem W3_arg13 : (W3 m d (Proc.devRef .tc main_arg13) : FVec F S128 .f32) = argOf m d main_arg13 :=
  (V0'_of_ne _ _ (dne main_arg13 main_v9)).trans (W2_arg13 m d)
theorem W3_v7 : (W3 m d (Proc.devRef .tc main_v7) : IVec S32x10496 32) = IbOf m d :=
  (V0'_of_ne _ _ (dne main_v7 main_v9)).trans (W2_v7 m d)
theorem W3_v8 : (W3 m d (Proc.devRef .tc main_v8) : S10240x128.Idx → F .f32) = G0of m d :=
  (V0'_of_ne _ _ (dne main_v8 main_v9)).trans (W2_v8 m d)
theorem W3_v9 : (W3 m d (Proc.devRef .tc main_v9) : FVec F S10000x128 .f32) = Z0of m d := by
  unfold W3; rw [V0'_out3, W2_arg0, W2_arg2, W2_arg4]; rfl

/-- After the reshape of a bias into a row. -/
def W4 : Valuation τ sig (Elt F) := (Cert.KernelIdeal.HostPre.rsOp10 (F := F)).result (W3 m d)
theorem W4_arg0 : (W4 m d (Proc.devRef .tc main_arg0) : FVec F S10000x128 .f32) = argOf m d main_arg0 :=
  (Cert.KernelIdeal.HostPre.rsOp10_result_ne _ (by decide : main_arg0 ≠ main_v10)).trans (W3_arg0 m d)
theorem W4_arg1 : (W4 m d (Proc.devRef .tc main_arg1) : IVec S2x320000 32) = argOf m d main_arg1 :=
  (Cert.KernelIdeal.HostPre.rsOp10_result_ne _ (by decide : main_arg1 ≠ main_v10)).trans (W3_arg1 m d)
theorem W4_arg2 : (W4 m d (Proc.devRef .tc main_arg2) : FVec F S128x128 .f32) = argOf m d main_arg2 :=
  (Cert.KernelIdeal.HostPre.rsOp10_result_ne _ (by decide : main_arg2 ≠ main_v10)).trans (W3_arg2 m d)
theorem W4_arg3 : (W4 m d (Proc.devRef .tc main_arg3) : FVec F S128x128 .f32) = argOf m d main_arg3 :=
  (Cert.KernelIdeal.HostPre.rsOp10_result_ne _ (by decide : main_arg3 ≠ main_v10)).trans (W3_arg3 m d)
theorem W4_arg4 : (W4 m d (Proc.devRef .tc main_arg4) : FVec F S128x128 .f32) = argOf m d main_arg4 :=
  (Cert.KernelIdeal.HostPre.rsOp10_result_ne _ (by decide : main_arg4 ≠ main_v10)).trans (W3_arg4 m d)
theorem W4_arg5 : (W4 m d (Proc.devRef .tc main_arg5) : FVec F S128 .f32) = argOf m d main_arg5 :=
  (Cert.KernelIdeal.HostPre.rsOp10_result_ne _ (by decide : main_arg5 ≠ main_v10)).trans (W3_arg5 m d)
theorem W4_arg6 : (W4 m d (Proc.devRef .tc main_arg6) : FVec F S128x128 .f32) = argOf m d main_arg6 :=
  (Cert.KernelIdeal.HostPre.rsOp10_result_ne _ (by decide : main_arg6 ≠ main_v10)).trans (W3_arg6 m d)
theorem W4_arg7 : (W4 m d (Proc.devRef .tc main_arg7) : FVec F S128x128 .f32) = argOf m d main_arg7 :=
  (Cert.KernelIdeal.HostPre.rsOp10_result_ne _ (by decide : main_arg7 ≠ main_v10)).trans (W3_arg7 m d)
theorem W4_arg8 : (W4 m d (Proc.devRef .tc main_arg8) : FVec F S128x128 .f32) = argOf m d main_arg8 :=
  (Cert.KernelIdeal.HostPre.rsOp10_result_ne _ (by decide : main_arg8 ≠ main_v10)).trans (W3_arg8 m d)
theorem W4_arg9 : (W4 m d (Proc.devRef .tc main_arg9) : FVec F S128 .f32) = argOf m d main_arg9 :=
  (Cert.KernelIdeal.HostPre.rsOp10_result_ne _ (by decide : main_arg9 ≠ main_v10)).trans (W3_arg9 m d)
theorem W4_arg10 : (W4 m d (Proc.devRef .tc main_arg10) : FVec F S128x128 .f32) = argOf m d main_arg10 :=
  (Cert.KernelIdeal.HostPre.rsOp10_result_ne _ (by decide : main_arg10 ≠ main_v10)).trans (W3_arg10 m d)
theorem W4_arg11 : (W4 m d (Proc.devRef .tc main_arg11) : FVec F S128x128 .f32) = argOf m d main_arg11 :=
  (Cert.KernelIdeal.HostPre.rsOp10_result_ne _ (by decide : main_arg11 ≠ main_v10)).trans (W3_arg11 m d)
theorem W4_arg12 : (W4 m d (Proc.devRef .tc main_arg12) : FVec F S128x128 .f32) = argOf m d main_arg12 :=
  (Cert.KernelIdeal.HostPre.rsOp10_result_ne _ (by decide : main_arg12 ≠ main_v10)).trans (W3_arg12 m d)
theorem W4_arg13 : (W4 m d (Proc.devRef .tc main_arg13) : FVec F S128 .f32) = argOf m d main_arg13 :=
  (Cert.KernelIdeal.HostPre.rsOp10_result_ne _ (by decide : main_arg13 ≠ main_v10)).trans (W3_arg13 m d)
theorem W4_v7 : (W4 m d (Proc.devRef .tc main_v7) : IVec S32x10496 32) = IbOf m d :=
  (Cert.KernelIdeal.HostPre.rsOp10_result_ne _ (by decide : main_v7 ≠ main_v10)).trans (W3_v7 m d)
theorem W4_v8 : (W4 m d (Proc.devRef .tc main_v8) : S10240x128.Idx → F .f32) = G0of m d :=
  (Cert.KernelIdeal.HostPre.rsOp10_result_ne _ (by decide : main_v8 ≠ main_v10)).trans (W3_v8 m d)
theorem W4_v9 : (W4 m d (Proc.devRef .tc main_v9) : FVec F S10000x128 .f32) = Z0of m d :=
  (Cert.KernelIdeal.HostPre.rsOp10_result_ne _ (by decide : main_v9 ≠ main_v10)).trans (W3_v9 m d)
theorem W4_v10 : (W4 m d (Proc.devRef .tc main_v10) : FVec F S1x128 .f32) = B0of m d := by
  unfold W4; rw [Cert.KernelIdeal.HostPre.rsOp10_result, W3_arg5]; rfl

/-- After the TensorCore region that writes main_v11_0, main_v11_1. -/
def W5 : Valuation τ sig (Elt F) := V1' (W4 m d)
theorem W5_arg0 : (W5 m d (Proc.devRef .tc main_arg0) : FVec F S10000x128 .f32) = argOf m d main_arg0 :=
  (V1'_of_ne _ _ (dne main_arg0 main_v11_0) (dne main_arg0 main_v11_1)).trans (W4_arg0 m d)
theorem W5_arg1 : (W5 m d (Proc.devRef .tc main_arg1) : IVec S2x320000 32) = argOf m d main_arg1 :=
  (V1'_of_ne _ _ (dne main_arg1 main_v11_0) (dne main_arg1 main_v11_1)).trans (W4_arg1 m d)
theorem W5_arg2 : (W5 m d (Proc.devRef .tc main_arg2) : FVec F S128x128 .f32) = argOf m d main_arg2 :=
  (V1'_of_ne _ _ (dne main_arg2 main_v11_0) (dne main_arg2 main_v11_1)).trans (W4_arg2 m d)
theorem W5_arg3 : (W5 m d (Proc.devRef .tc main_arg3) : FVec F S128x128 .f32) = argOf m d main_arg3 :=
  (V1'_of_ne _ _ (dne main_arg3 main_v11_0) (dne main_arg3 main_v11_1)).trans (W4_arg3 m d)
theorem W5_arg4 : (W5 m d (Proc.devRef .tc main_arg4) : FVec F S128x128 .f32) = argOf m d main_arg4 :=
  (V1'_of_ne _ _ (dne main_arg4 main_v11_0) (dne main_arg4 main_v11_1)).trans (W4_arg4 m d)
theorem W5_arg5 : (W5 m d (Proc.devRef .tc main_arg5) : FVec F S128 .f32) = argOf m d main_arg5 :=
  (V1'_of_ne _ _ (dne main_arg5 main_v11_0) (dne main_arg5 main_v11_1)).trans (W4_arg5 m d)
theorem W5_arg6 : (W5 m d (Proc.devRef .tc main_arg6) : FVec F S128x128 .f32) = argOf m d main_arg6 :=
  (V1'_of_ne _ _ (dne main_arg6 main_v11_0) (dne main_arg6 main_v11_1)).trans (W4_arg6 m d)
theorem W5_arg7 : (W5 m d (Proc.devRef .tc main_arg7) : FVec F S128x128 .f32) = argOf m d main_arg7 :=
  (V1'_of_ne _ _ (dne main_arg7 main_v11_0) (dne main_arg7 main_v11_1)).trans (W4_arg7 m d)
theorem W5_arg8 : (W5 m d (Proc.devRef .tc main_arg8) : FVec F S128x128 .f32) = argOf m d main_arg8 :=
  (V1'_of_ne _ _ (dne main_arg8 main_v11_0) (dne main_arg8 main_v11_1)).trans (W4_arg8 m d)
theorem W5_arg9 : (W5 m d (Proc.devRef .tc main_arg9) : FVec F S128 .f32) = argOf m d main_arg9 :=
  (V1'_of_ne _ _ (dne main_arg9 main_v11_0) (dne main_arg9 main_v11_1)).trans (W4_arg9 m d)
theorem W5_arg10 : (W5 m d (Proc.devRef .tc main_arg10) : FVec F S128x128 .f32) = argOf m d main_arg10 :=
  (V1'_of_ne _ _ (dne main_arg10 main_v11_0) (dne main_arg10 main_v11_1)).trans (W4_arg10 m d)
theorem W5_arg11 : (W5 m d (Proc.devRef .tc main_arg11) : FVec F S128x128 .f32) = argOf m d main_arg11 :=
  (V1'_of_ne _ _ (dne main_arg11 main_v11_0) (dne main_arg11 main_v11_1)).trans (W4_arg11 m d)
theorem W5_arg12 : (W5 m d (Proc.devRef .tc main_arg12) : FVec F S128x128 .f32) = argOf m d main_arg12 :=
  (V1'_of_ne _ _ (dne main_arg12 main_v11_0) (dne main_arg12 main_v11_1)).trans (W4_arg12 m d)
theorem W5_arg13 : (W5 m d (Proc.devRef .tc main_arg13) : FVec F S128 .f32) = argOf m d main_arg13 :=
  (V1'_of_ne _ _ (dne main_arg13 main_v11_0) (dne main_arg13 main_v11_1)).trans (W4_arg13 m d)
theorem W5_v7 : (W5 m d (Proc.devRef .tc main_v7) : IVec S32x10496 32) = IbOf m d :=
  (V1'_of_ne _ _ (dne main_v7 main_v11_0) (dne main_v7 main_v11_1)).trans (W4_v7 m d)
theorem W5_v8 : (W5 m d (Proc.devRef .tc main_v8) : S10240x128.Idx → F .f32) = G0of m d :=
  (V1'_of_ne _ _ (dne main_v8 main_v11_0) (dne main_v8 main_v11_1)).trans (W4_v8 m d)
theorem W5_v9 : (W5 m d (Proc.devRef .tc main_v9) : FVec F S10000x128 .f32) = Z0of m d :=
  (V1'_of_ne _ _ (dne main_v9 main_v11_0) (dne main_v9 main_v11_1)).trans (W4_v9 m d)
theorem W5_v10 : (W5 m d (Proc.devRef .tc main_v10) : FVec F S1x128 .f32) = B0of m d :=
  (V1'_of_ne _ _ (dne main_v10 main_v11_0) (dne main_v10 main_v11_1)).trans (W4_v10 m d)
theorem W5_v11_0 : (W5 m d (Proc.devRef .tc main_v11_0) : S10000x128.Idx → F .f32) = T1of m d := by
  unfold W5; rw [V1'_out6, W4_v9, W4_v8, W4_arg3, W4_v10]; rfl
theorem W5_v11_1 : (W5 m d (Proc.devRef .tc main_v11_1) : FVec F S10000x128 .f32) = Z1of m d := by
  unfold W5; rw [V1'_out7, W4_v9, W4_v8, W4_arg3, W4_v10, W4_arg6, W4_arg8]; rfl

/-- After the SparseCore call that writes main_v12: the neighbour sums of its table over the index table. -/
def W6 : Valuation τ sig (Elt F) :=
  Function.update (W5 m d) (Proc.devRef .tc main_v12) (gsumF (W5 m d (Proc.devRef .tc main_v11_0)) (W5 m d (Proc.devRef .tc main_v7)))
theorem W6_arg0 : (W6 m d (Proc.devRef .tc main_arg0) : FVec F S10000x128 .f32) = argOf m d main_arg0 :=
  (Function.update_of_ne (dne main_arg0 main_v12) _ _).trans (W5_arg0 m d)
theorem W6_arg1 : (W6 m d (Proc.devRef .tc main_arg1) : IVec S2x320000 32) = argOf m d main_arg1 :=
  (Function.update_of_ne (dne main_arg1 main_v12) _ _).trans (W5_arg1 m d)
theorem W6_arg2 : (W6 m d (Proc.devRef .tc main_arg2) : FVec F S128x128 .f32) = argOf m d main_arg2 :=
  (Function.update_of_ne (dne main_arg2 main_v12) _ _).trans (W5_arg2 m d)
theorem W6_arg3 : (W6 m d (Proc.devRef .tc main_arg3) : FVec F S128x128 .f32) = argOf m d main_arg3 :=
  (Function.update_of_ne (dne main_arg3 main_v12) _ _).trans (W5_arg3 m d)
theorem W6_arg4 : (W6 m d (Proc.devRef .tc main_arg4) : FVec F S128x128 .f32) = argOf m d main_arg4 :=
  (Function.update_of_ne (dne main_arg4 main_v12) _ _).trans (W5_arg4 m d)
theorem W6_arg5 : (W6 m d (Proc.devRef .tc main_arg5) : FVec F S128 .f32) = argOf m d main_arg5 :=
  (Function.update_of_ne (dne main_arg5 main_v12) _ _).trans (W5_arg5 m d)
theorem W6_arg6 : (W6 m d (Proc.devRef .tc main_arg6) : FVec F S128x128 .f32) = argOf m d main_arg6 :=
  (Function.update_of_ne (dne main_arg6 main_v12) _ _).trans (W5_arg6 m d)
theorem W6_arg7 : (W6 m d (Proc.devRef .tc main_arg7) : FVec F S128x128 .f32) = argOf m d main_arg7 :=
  (Function.update_of_ne (dne main_arg7 main_v12) _ _).trans (W5_arg7 m d)
theorem W6_arg8 : (W6 m d (Proc.devRef .tc main_arg8) : FVec F S128x128 .f32) = argOf m d main_arg8 :=
  (Function.update_of_ne (dne main_arg8 main_v12) _ _).trans (W5_arg8 m d)
theorem W6_arg9 : (W6 m d (Proc.devRef .tc main_arg9) : FVec F S128 .f32) = argOf m d main_arg9 :=
  (Function.update_of_ne (dne main_arg9 main_v12) _ _).trans (W5_arg9 m d)
theorem W6_arg10 : (W6 m d (Proc.devRef .tc main_arg10) : FVec F S128x128 .f32) = argOf m d main_arg10 :=
  (Function.update_of_ne (dne main_arg10 main_v12) _ _).trans (W5_arg10 m d)
theorem W6_arg11 : (W6 m d (Proc.devRef .tc main_arg11) : FVec F S128x128 .f32) = argOf m d main_arg11 :=
  (Function.update_of_ne (dne main_arg11 main_v12) _ _).trans (W5_arg11 m d)
theorem W6_arg12 : (W6 m d (Proc.devRef .tc main_arg12) : FVec F S128x128 .f32) = argOf m d main_arg12 :=
  (Function.update_of_ne (dne main_arg12 main_v12) _ _).trans (W5_arg12 m d)
theorem W6_arg13 : (W6 m d (Proc.devRef .tc main_arg13) : FVec F S128 .f32) = argOf m d main_arg13 :=
  (Function.update_of_ne (dne main_arg13 main_v12) _ _).trans (W5_arg13 m d)
theorem W6_v7 : (W6 m d (Proc.devRef .tc main_v7) : IVec S32x10496 32) = IbOf m d :=
  (Function.update_of_ne (dne main_v7 main_v12) _ _).trans (W5_v7 m d)
theorem W6_v11_0 : (W6 m d (Proc.devRef .tc main_v11_0) : S10000x128.Idx → F .f32) = T1of m d :=
  (Function.update_of_ne (dne main_v11_0 main_v12) _ _).trans (W5_v11_0 m d)
theorem W6_v11_1 : (W6 m d (Proc.devRef .tc main_v11_1) : FVec F S10000x128 .f32) = Z1of m d :=
  (Function.update_of_ne (dne main_v11_1 main_v12) _ _).trans (W5_v11_1 m d)
theorem W6_v12 : (W6 m d (Proc.devRef .tc main_v12) : S10240x128.Idx → F .f32) = G1of m d := by
  unfold W6; rw [Function.update_self, W5_v11_0, W5_v7]; rfl

/-- After the reshape of a bias into a row. -/
def W7 : Valuation τ sig (Elt F) := (Cert.KernelIdeal.HostPre.rsOp13 (F := F)).result (W6 m d)
theorem W7_arg0 : (W7 m d (Proc.devRef .tc main_arg0) : FVec F S10000x128 .f32) = argOf m d main_arg0 :=
  (Cert.KernelIdeal.HostPre.rsOp13_result_ne _ (by decide : main_arg0 ≠ main_v13)).trans (W6_arg0 m d)
theorem W7_arg1 : (W7 m d (Proc.devRef .tc main_arg1) : IVec S2x320000 32) = argOf m d main_arg1 :=
  (Cert.KernelIdeal.HostPre.rsOp13_result_ne _ (by decide : main_arg1 ≠ main_v13)).trans (W6_arg1 m d)
theorem W7_arg2 : (W7 m d (Proc.devRef .tc main_arg2) : FVec F S128x128 .f32) = argOf m d main_arg2 :=
  (Cert.KernelIdeal.HostPre.rsOp13_result_ne _ (by decide : main_arg2 ≠ main_v13)).trans (W6_arg2 m d)
theorem W7_arg3 : (W7 m d (Proc.devRef .tc main_arg3) : FVec F S128x128 .f32) = argOf m d main_arg3 :=
  (Cert.KernelIdeal.HostPre.rsOp13_result_ne _ (by decide : main_arg3 ≠ main_v13)).trans (W6_arg3 m d)
theorem W7_arg4 : (W7 m d (Proc.devRef .tc main_arg4) : FVec F S128x128 .f32) = argOf m d main_arg4 :=
  (Cert.KernelIdeal.HostPre.rsOp13_result_ne _ (by decide : main_arg4 ≠ main_v13)).trans (W6_arg4 m d)
theorem W7_arg5 : (W7 m d (Proc.devRef .tc main_arg5) : FVec F S128 .f32) = argOf m d main_arg5 :=
  (Cert.KernelIdeal.HostPre.rsOp13_result_ne _ (by decide : main_arg5 ≠ main_v13)).trans (W6_arg5 m d)
theorem W7_arg6 : (W7 m d (Proc.devRef .tc main_arg6) : FVec F S128x128 .f32) = argOf m d main_arg6 :=
  (Cert.KernelIdeal.HostPre.rsOp13_result_ne _ (by decide : main_arg6 ≠ main_v13)).trans (W6_arg6 m d)
theorem W7_arg7 : (W7 m d (Proc.devRef .tc main_arg7) : FVec F S128x128 .f32) = argOf m d main_arg7 :=
  (Cert.KernelIdeal.HostPre.rsOp13_result_ne _ (by decide : main_arg7 ≠ main_v13)).trans (W6_arg7 m d)
theorem W7_arg8 : (W7 m d (Proc.devRef .tc main_arg8) : FVec F S128x128 .f32) = argOf m d main_arg8 :=
  (Cert.KernelIdeal.HostPre.rsOp13_result_ne _ (by decide : main_arg8 ≠ main_v13)).trans (W6_arg8 m d)
theorem W7_arg9 : (W7 m d (Proc.devRef .tc main_arg9) : FVec F S128 .f32) = argOf m d main_arg9 :=
  (Cert.KernelIdeal.HostPre.rsOp13_result_ne _ (by decide : main_arg9 ≠ main_v13)).trans (W6_arg9 m d)
theorem W7_arg10 : (W7 m d (Proc.devRef .tc main_arg10) : FVec F S128x128 .f32) = argOf m d main_arg10 :=
  (Cert.KernelIdeal.HostPre.rsOp13_result_ne _ (by decide : main_arg10 ≠ main_v13)).trans (W6_arg10 m d)
theorem W7_arg11 : (W7 m d (Proc.devRef .tc main_arg11) : FVec F S128x128 .f32) = argOf m d main_arg11 :=
  (Cert.KernelIdeal.HostPre.rsOp13_result_ne _ (by decide : main_arg11 ≠ main_v13)).trans (W6_arg11 m d)
theorem W7_arg12 : (W7 m d (Proc.devRef .tc main_arg12) : FVec F S128x128 .f32) = argOf m d main_arg12 :=
  (Cert.KernelIdeal.HostPre.rsOp13_result_ne _ (by decide : main_arg12 ≠ main_v13)).trans (W6_arg12 m d)
theorem W7_arg13 : (W7 m d (Proc.devRef .tc main_arg13) : FVec F S128 .f32) = argOf m d main_arg13 :=
  (Cert.KernelIdeal.HostPre.rsOp13_result_ne _ (by decide : main_arg13 ≠ main_v13)).trans (W6_arg13 m d)
theorem W7_v7 : (W7 m d (Proc.devRef .tc main_v7) : IVec S32x10496 32) = IbOf m d :=
  (Cert.KernelIdeal.HostPre.rsOp13_result_ne _ (by decide : main_v7 ≠ main_v13)).trans (W6_v7 m d)
theorem W7_v11_1 : (W7 m d (Proc.devRef .tc main_v11_1) : FVec F S10000x128 .f32) = Z1of m d :=
  (Cert.KernelIdeal.HostPre.rsOp13_result_ne _ (by decide : main_v11_1 ≠ main_v13)).trans (W6_v11_1 m d)
theorem W7_v12 : (W7 m d (Proc.devRef .tc main_v12) : S10240x128.Idx → F .f32) = G1of m d :=
  (Cert.KernelIdeal.HostPre.rsOp13_result_ne _ (by decide : main_v12 ≠ main_v13)).trans (W6_v12 m d)
theorem W7_v13 : (W7 m d (Proc.devRef .tc main_v13) : FVec F S1x128 .f32) = B1of m d := by
  unfold W7; rw [Cert.KernelIdeal.HostPre.rsOp13_result, W6_arg9]; rfl

/-- After the TensorCore region that writes main_v14_0, main_v14_1. -/
def W8 : Valuation τ sig (Elt F) := V2' (W7 m d)
theorem W8_arg0 : (W8 m d (Proc.devRef .tc main_arg0) : FVec F S10000x128 .f32) = argOf m d main_arg0 :=
  (V2'_of_ne _ _ (dne main_arg0 main_v14_0) (dne main_arg0 main_v14_1)).trans (W7_arg0 m d)
theorem W8_arg1 : (W8 m d (Proc.devRef .tc main_arg1) : IVec S2x320000 32) = argOf m d main_arg1 :=
  (V2'_of_ne _ _ (dne main_arg1 main_v14_0) (dne main_arg1 main_v14_1)).trans (W7_arg1 m d)
theorem W8_arg2 : (W8 m d (Proc.devRef .tc main_arg2) : FVec F S128x128 .f32) = argOf m d main_arg2 :=
  (V2'_of_ne _ _ (dne main_arg2 main_v14_0) (dne main_arg2 main_v14_1)).trans (W7_arg2 m d)
theorem W8_arg3 : (W8 m d (Proc.devRef .tc main_arg3) : FVec F S128x128 .f32) = argOf m d main_arg3 :=
  (V2'_of_ne _ _ (dne main_arg3 main_v14_0) (dne main_arg3 main_v14_1)).trans (W7_arg3 m d)
theorem W8_arg4 : (W8 m d (Proc.devRef .tc main_arg4) : FVec F S128x128 .f32) = argOf m d main_arg4 :=
  (V2'_of_ne _ _ (dne main_arg4 main_v14_0) (dne main_arg4 main_v14_1)).trans (W7_arg4 m d)
theorem W8_arg5 : (W8 m d (Proc.devRef .tc main_arg5) : FVec F S128 .f32) = argOf m d main_arg5 :=
  (V2'_of_ne _ _ (dne main_arg5 main_v14_0) (dne main_arg5 main_v14_1)).trans (W7_arg5 m d)
theorem W8_arg6 : (W8 m d (Proc.devRef .tc main_arg6) : FVec F S128x128 .f32) = argOf m d main_arg6 :=
  (V2'_of_ne _ _ (dne main_arg6 main_v14_0) (dne main_arg6 main_v14_1)).trans (W7_arg6 m d)
theorem W8_arg7 : (W8 m d (Proc.devRef .tc main_arg7) : FVec F S128x128 .f32) = argOf m d main_arg7 :=
  (V2'_of_ne _ _ (dne main_arg7 main_v14_0) (dne main_arg7 main_v14_1)).trans (W7_arg7 m d)
theorem W8_arg8 : (W8 m d (Proc.devRef .tc main_arg8) : FVec F S128x128 .f32) = argOf m d main_arg8 :=
  (V2'_of_ne _ _ (dne main_arg8 main_v14_0) (dne main_arg8 main_v14_1)).trans (W7_arg8 m d)
theorem W8_arg9 : (W8 m d (Proc.devRef .tc main_arg9) : FVec F S128 .f32) = argOf m d main_arg9 :=
  (V2'_of_ne _ _ (dne main_arg9 main_v14_0) (dne main_arg9 main_v14_1)).trans (W7_arg9 m d)
theorem W8_arg10 : (W8 m d (Proc.devRef .tc main_arg10) : FVec F S128x128 .f32) = argOf m d main_arg10 :=
  (V2'_of_ne _ _ (dne main_arg10 main_v14_0) (dne main_arg10 main_v14_1)).trans (W7_arg10 m d)
theorem W8_arg11 : (W8 m d (Proc.devRef .tc main_arg11) : FVec F S128x128 .f32) = argOf m d main_arg11 :=
  (V2'_of_ne _ _ (dne main_arg11 main_v14_0) (dne main_arg11 main_v14_1)).trans (W7_arg11 m d)
theorem W8_arg12 : (W8 m d (Proc.devRef .tc main_arg12) : FVec F S128x128 .f32) = argOf m d main_arg12 :=
  (V2'_of_ne _ _ (dne main_arg12 main_v14_0) (dne main_arg12 main_v14_1)).trans (W7_arg12 m d)
theorem W8_arg13 : (W8 m d (Proc.devRef .tc main_arg13) : FVec F S128 .f32) = argOf m d main_arg13 :=
  (V2'_of_ne _ _ (dne main_arg13 main_v14_0) (dne main_arg13 main_v14_1)).trans (W7_arg13 m d)
theorem W8_v7 : (W8 m d (Proc.devRef .tc main_v7) : IVec S32x10496 32) = IbOf m d :=
  (V2'_of_ne _ _ (dne main_v7 main_v14_0) (dne main_v7 main_v14_1)).trans (W7_v7 m d)
theorem W8_v11_1 : (W8 m d (Proc.devRef .tc main_v11_1) : FVec F S10000x128 .f32) = Z1of m d :=
  (V2'_of_ne _ _ (dne main_v11_1 main_v14_0) (dne main_v11_1 main_v14_1)).trans (W7_v11_1 m d)
theorem W8_v12 : (W8 m d (Proc.devRef .tc main_v12) : S10240x128.Idx → F .f32) = G1of m d :=
  (V2'_of_ne _ _ (dne main_v12 main_v14_0) (dne main_v12 main_v14_1)).trans (W7_v12 m d)
theorem W8_v13 : (W8 m d (Proc.devRef .tc main_v13) : FVec F S1x128 .f32) = B1of m d :=
  (V2'_of_ne _ _ (dne main_v13 main_v14_0) (dne main_v13 main_v14_1)).trans (W7_v13 m d)
theorem W8_v14_0 : (W8 m d (Proc.devRef .tc main_v14_0) : S10000x128.Idx → F .f32) = T2of m d := by
  unfold W8; rw [V2'_out6, W7_v11_1, W7_v12, W7_arg7, W7_v13]; rfl
theorem W8_v14_1 : (W8 m d (Proc.devRef .tc main_v14_1) : FVec F S10000x128 .f32) = Z2of m d := by
  unfold W8; rw [V2'_out7, W7_v11_1, W7_v12, W7_arg7, W7_v13, W7_arg10, W7_arg12]; rfl

/-- After the SparseCore call that writes main_v15: the neighbour sums of its table over the index table. -/
def W9 : Valuation τ sig (Elt F) :=
  Function.update (W8 m d) (Proc.devRef .tc main_v15) (gsumF (W8 m d (Proc.devRef .tc main_v14_0)) (W8 m d (Proc.devRef .tc main_v7)))
theorem W9_arg0 : (W9 m d (Proc.devRef .tc main_arg0) : FVec F S10000x128 .f32) = argOf m d main_arg0 :=
  (Function.update_of_ne (dne main_arg0 main_v15) _ _).trans (W8_arg0 m d)
theorem W9_arg1 : (W9 m d (Proc.devRef .tc main_arg1) : IVec S2x320000 32) = argOf m d main_arg1 :=
  (Function.update_of_ne (dne main_arg1 main_v15) _ _).trans (W8_arg1 m d)
theorem W9_arg2 : (W9 m d (Proc.devRef .tc main_arg2) : FVec F S128x128 .f32) = argOf m d main_arg2 :=
  (Function.update_of_ne (dne main_arg2 main_v15) _ _).trans (W8_arg2 m d)
theorem W9_arg3 : (W9 m d (Proc.devRef .tc main_arg3) : FVec F S128x128 .f32) = argOf m d main_arg3 :=
  (Function.update_of_ne (dne main_arg3 main_v15) _ _).trans (W8_arg3 m d)
theorem W9_arg4 : (W9 m d (Proc.devRef .tc main_arg4) : FVec F S128x128 .f32) = argOf m d main_arg4 :=
  (Function.update_of_ne (dne main_arg4 main_v15) _ _).trans (W8_arg4 m d)
theorem W9_arg5 : (W9 m d (Proc.devRef .tc main_arg5) : FVec F S128 .f32) = argOf m d main_arg5 :=
  (Function.update_of_ne (dne main_arg5 main_v15) _ _).trans (W8_arg5 m d)
theorem W9_arg6 : (W9 m d (Proc.devRef .tc main_arg6) : FVec F S128x128 .f32) = argOf m d main_arg6 :=
  (Function.update_of_ne (dne main_arg6 main_v15) _ _).trans (W8_arg6 m d)
theorem W9_arg7 : (W9 m d (Proc.devRef .tc main_arg7) : FVec F S128x128 .f32) = argOf m d main_arg7 :=
  (Function.update_of_ne (dne main_arg7 main_v15) _ _).trans (W8_arg7 m d)
theorem W9_arg8 : (W9 m d (Proc.devRef .tc main_arg8) : FVec F S128x128 .f32) = argOf m d main_arg8 :=
  (Function.update_of_ne (dne main_arg8 main_v15) _ _).trans (W8_arg8 m d)
theorem W9_arg9 : (W9 m d (Proc.devRef .tc main_arg9) : FVec F S128 .f32) = argOf m d main_arg9 :=
  (Function.update_of_ne (dne main_arg9 main_v15) _ _).trans (W8_arg9 m d)
theorem W9_arg10 : (W9 m d (Proc.devRef .tc main_arg10) : FVec F S128x128 .f32) = argOf m d main_arg10 :=
  (Function.update_of_ne (dne main_arg10 main_v15) _ _).trans (W8_arg10 m d)
theorem W9_arg11 : (W9 m d (Proc.devRef .tc main_arg11) : FVec F S128x128 .f32) = argOf m d main_arg11 :=
  (Function.update_of_ne (dne main_arg11 main_v15) _ _).trans (W8_arg11 m d)
theorem W9_arg12 : (W9 m d (Proc.devRef .tc main_arg12) : FVec F S128x128 .f32) = argOf m d main_arg12 :=
  (Function.update_of_ne (dne main_arg12 main_v15) _ _).trans (W8_arg12 m d)
theorem W9_arg13 : (W9 m d (Proc.devRef .tc main_arg13) : FVec F S128 .f32) = argOf m d main_arg13 :=
  (Function.update_of_ne (dne main_arg13 main_v15) _ _).trans (W8_arg13 m d)
theorem W9_v7 : (W9 m d (Proc.devRef .tc main_v7) : IVec S32x10496 32) = IbOf m d :=
  (Function.update_of_ne (dne main_v7 main_v15) _ _).trans (W8_v7 m d)
theorem W9_v14_0 : (W9 m d (Proc.devRef .tc main_v14_0) : S10000x128.Idx → F .f32) = T2of m d :=
  (Function.update_of_ne (dne main_v14_0 main_v15) _ _).trans (W8_v14_0 m d)
theorem W9_v14_1 : (W9 m d (Proc.devRef .tc main_v14_1) : FVec F S10000x128 .f32) = Z2of m d :=
  (Function.update_of_ne (dne main_v14_1 main_v15) _ _).trans (W8_v14_1 m d)
theorem W9_v15 : (W9 m d (Proc.devRef .tc main_v15) : S10240x128.Idx → F .f32) = G2of m d := by
  unfold W9; rw [Function.update_self, W8_v14_0, W8_v7]; rfl

/-- After the reshape of a bias into a row. -/
def W10 : Valuation τ sig (Elt F) := (Cert.KernelIdeal.HostPre.rsOp16 (F := F)).result (W9 m d)
theorem W10_arg0 : (W10 m d (Proc.devRef .tc main_arg0) : FVec F S10000x128 .f32) = argOf m d main_arg0 :=
  (Cert.KernelIdeal.HostPre.rsOp16_result_ne _ (by decide : main_arg0 ≠ main_v16)).trans (W9_arg0 m d)
theorem W10_arg1 : (W10 m d (Proc.devRef .tc main_arg1) : IVec S2x320000 32) = argOf m d main_arg1 :=
  (Cert.KernelIdeal.HostPre.rsOp16_result_ne _ (by decide : main_arg1 ≠ main_v16)).trans (W9_arg1 m d)
theorem W10_arg2 : (W10 m d (Proc.devRef .tc main_arg2) : FVec F S128x128 .f32) = argOf m d main_arg2 :=
  (Cert.KernelIdeal.HostPre.rsOp16_result_ne _ (by decide : main_arg2 ≠ main_v16)).trans (W9_arg2 m d)
theorem W10_arg3 : (W10 m d (Proc.devRef .tc main_arg3) : FVec F S128x128 .f32) = argOf m d main_arg3 :=
  (Cert.KernelIdeal.HostPre.rsOp16_result_ne _ (by decide : main_arg3 ≠ main_v16)).trans (W9_arg3 m d)
theorem W10_arg4 : (W10 m d (Proc.devRef .tc main_arg4) : FVec F S128x128 .f32) = argOf m d main_arg4 :=
  (Cert.KernelIdeal.HostPre.rsOp16_result_ne _ (by decide : main_arg4 ≠ main_v16)).trans (W9_arg4 m d)
theorem W10_arg5 : (W10 m d (Proc.devRef .tc main_arg5) : FVec F S128 .f32) = argOf m d main_arg5 :=
  (Cert.KernelIdeal.HostPre.rsOp16_result_ne _ (by decide : main_arg5 ≠ main_v16)).trans (W9_arg5 m d)
theorem W10_arg6 : (W10 m d (Proc.devRef .tc main_arg6) : FVec F S128x128 .f32) = argOf m d main_arg6 :=
  (Cert.KernelIdeal.HostPre.rsOp16_result_ne _ (by decide : main_arg6 ≠ main_v16)).trans (W9_arg6 m d)
theorem W10_arg7 : (W10 m d (Proc.devRef .tc main_arg7) : FVec F S128x128 .f32) = argOf m d main_arg7 :=
  (Cert.KernelIdeal.HostPre.rsOp16_result_ne _ (by decide : main_arg7 ≠ main_v16)).trans (W9_arg7 m d)
theorem W10_arg8 : (W10 m d (Proc.devRef .tc main_arg8) : FVec F S128x128 .f32) = argOf m d main_arg8 :=
  (Cert.KernelIdeal.HostPre.rsOp16_result_ne _ (by decide : main_arg8 ≠ main_v16)).trans (W9_arg8 m d)
theorem W10_arg9 : (W10 m d (Proc.devRef .tc main_arg9) : FVec F S128 .f32) = argOf m d main_arg9 :=
  (Cert.KernelIdeal.HostPre.rsOp16_result_ne _ (by decide : main_arg9 ≠ main_v16)).trans (W9_arg9 m d)
theorem W10_arg10 : (W10 m d (Proc.devRef .tc main_arg10) : FVec F S128x128 .f32) = argOf m d main_arg10 :=
  (Cert.KernelIdeal.HostPre.rsOp16_result_ne _ (by decide : main_arg10 ≠ main_v16)).trans (W9_arg10 m d)
theorem W10_arg11 : (W10 m d (Proc.devRef .tc main_arg11) : FVec F S128x128 .f32) = argOf m d main_arg11 :=
  (Cert.KernelIdeal.HostPre.rsOp16_result_ne _ (by decide : main_arg11 ≠ main_v16)).trans (W9_arg11 m d)
theorem W10_arg12 : (W10 m d (Proc.devRef .tc main_arg12) : FVec F S128x128 .f32) = argOf m d main_arg12 :=
  (Cert.KernelIdeal.HostPre.rsOp16_result_ne _ (by decide : main_arg12 ≠ main_v16)).trans (W9_arg12 m d)
theorem W10_arg13 : (W10 m d (Proc.devRef .tc main_arg13) : FVec F S128 .f32) = argOf m d main_arg13 :=
  (Cert.KernelIdeal.HostPre.rsOp16_result_ne _ (by decide : main_arg13 ≠ main_v16)).trans (W9_arg13 m d)
theorem W10_v14_1 : (W10 m d (Proc.devRef .tc main_v14_1) : FVec F S10000x128 .f32) = Z2of m d :=
  (Cert.KernelIdeal.HostPre.rsOp16_result_ne _ (by decide : main_v14_1 ≠ main_v16)).trans (W9_v14_1 m d)
theorem W10_v15 : (W10 m d (Proc.devRef .tc main_v15) : S10240x128.Idx → F .f32) = G2of m d :=
  (Cert.KernelIdeal.HostPre.rsOp16_result_ne _ (by decide : main_v15 ≠ main_v16)).trans (W9_v15 m d)
theorem W10_v16 : (W10 m d (Proc.devRef .tc main_v16) : FVec F S1x128 .f32) = B2of m d := by
  unfold W10; rw [Cert.KernelIdeal.HostPre.rsOp16_result, W9_arg13]; rfl

/-- After the TensorCore region that writes main_v17. -/
def W11 : Valuation τ sig (Elt F) := V3' (W10 m d)
theorem W11_arg0 : (W11 m d (Proc.devRef .tc main_arg0) : FVec F S10000x128 .f32) = argOf m d main_arg0 :=
  (V3'_of_ne _ _ (dne main_arg0 main_v17)).trans (W10_arg0 m d)
theorem W11_arg1 : (W11 m d (Proc.devRef .tc main_arg1) : IVec S2x320000 32) = argOf m d main_arg1 :=
  (V3'_of_ne _ _ (dne main_arg1 main_v17)).trans (W10_arg1 m d)
theorem W11_arg2 : (W11 m d (Proc.devRef .tc main_arg2) : FVec F S128x128 .f32) = argOf m d main_arg2 :=
  (V3'_of_ne _ _ (dne main_arg2 main_v17)).trans (W10_arg2 m d)
theorem W11_arg3 : (W11 m d (Proc.devRef .tc main_arg3) : FVec F S128x128 .f32) = argOf m d main_arg3 :=
  (V3'_of_ne _ _ (dne main_arg3 main_v17)).trans (W10_arg3 m d)
theorem W11_arg4 : (W11 m d (Proc.devRef .tc main_arg4) : FVec F S128x128 .f32) = argOf m d main_arg4 :=
  (V3'_of_ne _ _ (dne main_arg4 main_v17)).trans (W10_arg4 m d)
theorem W11_arg5 : (W11 m d (Proc.devRef .tc main_arg5) : FVec F S128 .f32) = argOf m d main_arg5 :=
  (V3'_of_ne _ _ (dne main_arg5 main_v17)).trans (W10_arg5 m d)
theorem W11_arg6 : (W11 m d (Proc.devRef .tc main_arg6) : FVec F S128x128 .f32) = argOf m d main_arg6 :=
  (V3'_of_ne _ _ (dne main_arg6 main_v17)).trans (W10_arg6 m d)
theorem W11_arg7 : (W11 m d (Proc.devRef .tc main_arg7) : FVec F S128x128 .f32) = argOf m d main_arg7 :=
  (V3'_of_ne _ _ (dne main_arg7 main_v17)).trans (W10_arg7 m d)
theorem W11_arg8 : (W11 m d (Proc.devRef .tc main_arg8) : FVec F S128x128 .f32) = argOf m d main_arg8 :=
  (V3'_of_ne _ _ (dne main_arg8 main_v17)).trans (W10_arg8 m d)
theorem W11_arg9 : (W11 m d (Proc.devRef .tc main_arg9) : FVec F S128 .f32) = argOf m d main_arg9 :=
  (V3'_of_ne _ _ (dne main_arg9 main_v17)).trans (W10_arg9 m d)
theorem W11_arg10 : (W11 m d (Proc.devRef .tc main_arg10) : FVec F S128x128 .f32) = argOf m d main_arg10 :=
  (V3'_of_ne _ _ (dne main_arg10 main_v17)).trans (W10_arg10 m d)
theorem W11_arg11 : (W11 m d (Proc.devRef .tc main_arg11) : FVec F S128x128 .f32) = argOf m d main_arg11 :=
  (V3'_of_ne _ _ (dne main_arg11 main_v17)).trans (W10_arg11 m d)
theorem W11_arg12 : (W11 m d (Proc.devRef .tc main_arg12) : FVec F S128x128 .f32) = argOf m d main_arg12 :=
  (V3'_of_ne _ _ (dne main_arg12 main_v17)).trans (W10_arg12 m d)
theorem W11_arg13 : (W11 m d (Proc.devRef .tc main_arg13) : FVec F S128 .f32) = argOf m d main_arg13 :=
  (V3'_of_ne _ _ (dne main_arg13 main_v17)).trans (W10_arg13 m d)
theorem W11_v14_1 : (W11 m d (Proc.devRef .tc main_v14_1) : FVec F S10000x128 .f32) = Z2of m d :=
  (V3'_of_ne _ _ (dne main_v14_1 main_v17)).trans (W10_v14_1 m d)
theorem W11_v15 : (W11 m d (Proc.devRef .tc main_v15) : S10240x128.Idx → F .f32) = G2of m d :=
  (V3'_of_ne _ _ (dne main_v15 main_v17)).trans (W10_v15 m d)
theorem W11_v16 : (W11 m d (Proc.devRef .tc main_v16) : FVec F S1x128 .f32) = B2of m d :=
  (V3'_of_ne _ _ (dne main_v16 main_v17)).trans (W10_v16 m d)
theorem W11_v17 : (W11 m d (Proc.devRef .tc main_v17) : S10000x128.Idx → F .f32) = ResOf m d := by
  unfold W11; rw [V3'_out4, W10_v14_1, W10_v15, W10_arg11, W10_v16]; rfl

end Cert.Proof.KI

end
-- ==== Proof.ScCall.lean ====
import proofs.«205366_g3083786518796_cont_9to1_852_38_alg».proof.Proof.ScPay
import proofs.«205366_g3083786518796_cont_9to1_852_38_alg».proof.Proof.GSum
import Idealize.ShloMosaic.Lib.SparseCore.Threads

noncomputable section

/-!
# The TensorCore at a SparseCore call

Before a call the TensorCore holds the table, the index table and the output whole.  It hands each SparseCore a read
token of the two tables and its sixteen workers' output rows (the 32 blocks of 320 rows tile the 10240), keeps the
remainders of the tables, and after the call joins everything back: every worker's rows are its tree sums, so the
whole output is the one array `gsumF` of the table and the index table.
-/

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 3) (Elt F) ℕ UU ℕ

/-! ## The workers' numbering and rows -/

/-- Tile `i` of SparseCore `c` is worker `2·i + c`: a bijection onto the 32 workers. -/
def widEquiv : Fin 2 × Fin 16 ≃ Fin 32 where
  toFun ci := wid ci.1 ci.2
  invFun w := (⟨w.val % 2, Nat.mod_lt _ (by decide)⟩, ⟨w.val / 2, by omega⟩)
  left_inv := by
    rintro ⟨c, i⟩
    refine Prod.ext (Fin.ext ?_) (Fin.ext ?_)
    · show (2 * i.val + c.val) % 2 = c.val; omega
    · show (2 * i.val + c.val) / 2 = i.val; omega
  right_inv := by
    intro w
    refine Fin.ext ?_
    show 2 * (w.val / 2) + w.val % 2 = w.val; omega

/-- An index is in worker `w`'s rows iff its row is one of the 320 from `320·w`. -/
theorem mem_outRect (w : Fin 32) (i : S10240x128.Idx) : i ∈ (outRect w).set ↔ 320 * w.val ≤ (i 0).val ∧ (i 0).val < 320 * w.val + 320 := by
  unfold outRect
  rw [Rect.mem_set_unit]
  constructor
  · intro h; exact h 0
  · intro h a
    match a with
    | ⟨0, _⟩ => exact h
    | ⟨1, _⟩ => exact ⟨Nat.zero_le _, by have := ValueIdx.idx2_lt1 i; show (i 1).val < 0 + 128; omega⟩

/-- Different workers' rows are disjoint, and the 32 blocks are all the rows. -/
theorem outRect_disjoint (w w' : Fin 32) (h : w ≠ w') : Disjoint (outRect w).set (outRect w').set :=
  Finset.disjoint_left.mpr fun i hi hi' => by
    rw [mem_outRect] at hi hi'
    exact h (Fin.ext (by omega))
theorem outRect_cover : (Finset.univ : Finset (Fin 32)).biUnion (fun w => (outRect w).set) = Finset.univ := by
  refine Finset.eq_univ_iff_forall.mpr fun i => Finset.mem_biUnion.mpr ?_
  have hi := ValueIdx.idx2_lt0 i
  refine ⟨⟨(i 0).val / 320, by omega⟩, Finset.mem_univ _, ?_⟩
  rw [mem_outRect]
  show 320 * ((i 0).val / 320) ≤ (i 0).val ∧ (i 0).val < 320 * ((i 0).val / 320) + 320
  omega

/-- An output that has a worker's tree sums on its rows agrees there with the one array. -/
theorem agree_of_sumRel [FloatOps F] (Tc : S10000x128.Idx → F .f32) (I : S32x10496.Idx → BitVec 32) (w : Fin 32)
    (fo : S10240x128.Idx → F .f32) (h : SumRel w Tc I fo) : ∀ i ∈ (outRect w).set, fo i = gsumF Tc I i := by
  intro i hi
  rw [mem_outRect] at hi
  have e : i = ValueIdx.ix2 (⟨320 * w.val + ((i 0).val - 320 * w.val), by omega⟩ : Fin 10240) (i 1) := by
    funext a
    match a with
    | ⟨0, _⟩ => exact Fin.ext (by show (i 0).val = 320 * w.val + ((i 0).val - 320 * w.val); omega)
    | ⟨1, _⟩ => rfl
  rw [e]
  exact (h ⟨(i 0).val - 320 * w.val, by omega⟩ (i 1)).trans (gsumF_rel Tc I w ⟨(i 0).val - 320 * w.val, by omega⟩ (i 1)).symm

/-- The big star over the two SparseCores, spelt out. -/
theorem bigSep_two {M : Type} [URA M] (Φ : Fin 2 → sProp M) : bigSep Finset.univ Φ = iprop(Φ 0 ∗ Φ 1) := bigSep_fin_two Φ

/-! ## One call, over its locations -/

section Call

variable (ℓt ℓi ℓo : Loc nD τ sig) (RowsO : Fin 32 → Finset (Idx ℓo))
variable (wrT : (S10000x128.Idx → F .f32) → Buf (Elt F) ℓt) (wrI : (S32x10496.Idx → BitVec 32) → Buf (Elt F) ℓi)
variable (rdO : Buf (Elt F) ℓo → S10240x128.Idx → F .f32) (wrO : (S10240x128.Idx → F .f32) → Buf (Elt F) ℓo)
variable (Tq : S10000x128.Idx → F .f32) (Iq : S32x10496.Idx → BitVec 32)

/-- A whole array is its remainder after two read tokens and the two SparseCores' tokens. -/
theorem toks2 (ℓ : Loc nD τ sig) (f : Buf (Elt F) ℓ) :
    (ℓ ↦{fullShare} f : sProp 𝕄) ⊣⊢ iprop((ℓ ↦{shareDrop fullShare 2} f) ∗ (ℓ ↦{coreShare 0} f) ∗ (ℓ ↦{coreShare 1} f)) := by
  have h := Transfers.pointsTo_toks (ℓ := ℓ) (S := Finset.univ) (f := f) (Ix := HIx 3) (Name := ℕ) (U := UU) (Lvl := ℕ) fullShare 2
  rwa [bigSep_two] at h

/-- The whole output is the 32 workers' rows, grouped by SparseCore. -/
theorem rows_split (hdisj : ∀ w w' : Fin 32, w ≠ w' → Disjoint (RowsO w) (RowsO w'))
    (hcover : (Finset.univ : Finset (Fin 32)).biUnion RowsO = Finset.univ) (f : Buf (Elt F) ℓo) :
    (ℓo ↦{fullShare} f : sProp 𝕄)
      = iprop((bigSep Finset.univ fun i : Fin 16 => ℓo ↦[RowsO (wid 0 i)]{fullShare} f)
          ∗ (bigSep Finset.univ fun i : Fin 16 => ℓo ↦[RowsO (wid 1 i)]{fullShare} f)) := by
  rw [show (ℓo ↦{fullShare} f : sProp 𝕄) = (ℓo ↦[(Finset.univ : Finset (Fin 32)).biUnion RowsO]{fullShare} f) by rw [hcover],
    pointsTo_biUnion Finset.univ RowsO (fun w _ w' _ h => hdisj w w' h),
    bigSep_univ_equiv widEquiv, bigSep_univ_prod, bigSep_two]
  rfl

/-- Rows held at some contents; rows at a worker's tree sums are rows of the one array. -/
theorem row_ex (R : Finset (Idx ℓo)) (f : Buf (Elt F) ℓo) : (ℓo ↦[R]{fullShare} f : sProp 𝕄) ⊢ iprop(∃ fo, ℓo ↦[R]{fullShare} fo) := by
  iintro H; iexists f; iexact H
theorem row_congr [FloatOps F]
    (hmem : ∀ (w : Fin 32) (fo : Buf (Elt F) ℓo), SumRel w Tq Iq (rdO fo) → ∀ i ∈ RowsO w, fo i = wrO (gsumF Tq Iq) i) (w : Fin 32) :
    (iprop(∃ fo, (ℓo ↦[RowsO w]{fullShare} fo) ∗ ⌜SumRel w Tq Iq (rdO fo)⌝) : sProp 𝕄) ⊢ (ℓo ↦[RowsO w]{fullShare} wrO (gsumF Tq Iq) : sProp 𝕄) := by
  iintro ⟨%fo, Ho, %hs⟩
  rw [← pointsTo_congr (hmem w fo hs)]
  iexact Ho

/-- Before the call: each SparseCore gets its tokens of the two tables, its workers' output rows and its tiles' barrier
    cells; the TensorCore keeps the tables' remainders. -/
theorem st_intro (hdisj : ∀ w w' : Fin 32, w ≠ w' → Disjoint (RowsO w) (RowsO w'))
    (hcover : (Finset.univ : Finset (Fin 32)).biUnion RowsO = Finset.univ) (q : ℕ) (d : Dev nD) :
    iprop((ℓt ↦{fullShare} wrT Tq) ∗ (ℓi ↦{fullShare} wrI Iq) ∗ ⌜∀ w, IdxOk w Iq⌝ ∗ (∃ f, ℓo ↦{fullShare} f)
        ∗ bigSep Finset.univ (fun ci : Fin 2 × Fin 16 => barCarry (F := F) q d (ci.1.castLE (by decide)) (ci.2.castLE (by decide))))
      ⊢ iprop((ℓt ↦{shareDrop fullShare 2} wrT Tq) ∗ (ℓi ↦{shareDrop fullShare 2} wrI Iq)
          ∗ bigSep Finset.univ fun c : Fin 2 => stPay ℓt ℓi ℓo RowsO wrT wrI Tq Iq q d c) := by
  rw [bigSep_univ_prod]
  simp only [bigSep_two]
  unfold stPay
  have hex : ∀ (c : Fin 2) (f : Buf (Elt F) ℓo), (bigSep Finset.univ fun i : Fin 16 => (ℓo ↦[RowsO (wid c i)]{fullShare} f : sProp 𝕄))
      ⊢ bigSep Finset.univ fun i : Fin 16 => (iprop(∃ fo, ℓo ↦[RowsO (wid c i)]{fullShare} fo) : sProp 𝕄) := fun c f =>
    bigSep_mono fun i _ => row_ex ℓo (RowsO (wid c i)) f
  iintro ⟨Ht, Hi, %hok, ⟨%f, Ho⟩, Hb0, Hb1⟩
  ihave Ht' := (toks2 ℓt (wrT Tq)).1 $$ Ht
  icases Ht' with ⟨Htd, Ht0, Ht1⟩
  ihave Hi' := (toks2 ℓi (wrI Iq)).1 $$ Hi
  icases Hi' with ⟨Hid, Hi0, Hi1⟩
  ihave Ho' := (Entails.of_eq (rows_split ℓo RowsO hdisj hcover f)) $$ Ho
  icases Ho' with ⟨Ho0, Ho1⟩
  isplitl [Htd]; · iexact Htd
  isplitl [Hid]; · iexact Hid
  isplitl [Ht0 Hi0 Ho0 Hb0]
  · isplitl [Ht0]; · iexact Ht0
    isplitl [Hi0]; · iexact Hi0
    isplitr; · ipureintro; exact hok
    isplitl [Ho0]
    · iapply (hex 0 f)
      iexact Ho0
    iexact Hb0
  · isplitl [Ht1]; · iexact Ht1
    isplitl [Hi1]; · iexact Hi1
    isplitr; · ipureintro; exact hok
    isplitl [Ho1]
    · iapply (hex 1 f)
      iexact Ho1
    iexact Hb1

/-- After the call: the tokens join the remainders, and the workers' rows — each at its tree sums, so each agreeing with
    the one array on its rows — join into the whole output at that array. -/
theorem dn_elim [FloatOps F] (hdisj : ∀ w w' : Fin 32, w ≠ w' → Disjoint (RowsO w) (RowsO w'))
    (hcover : (Finset.univ : Finset (Fin 32)).biUnion RowsO = Finset.univ)
    (hmem : ∀ (w : Fin 32) (fo : Buf (Elt F) ℓo), SumRel w Tq Iq (rdO fo) → ∀ i ∈ RowsO w, fo i = wrO (gsumF Tq Iq) i)
    (q : ℕ) (d : Dev nD) :
    iprop((ℓt ↦{shareDrop fullShare 2} wrT Tq) ∗ (ℓi ↦{shareDrop fullShare 2} wrI Iq)
        ∗ bigSep Finset.univ fun c : Fin 2 => dnPay ℓt ℓi ℓo RowsO wrT wrI rdO Tq Iq q d c)
      ⊢ iprop((ℓt ↦{fullShare} wrT Tq) ∗ (ℓi ↦{fullShare} wrI Iq) ∗ (ℓo ↦{fullShare} wrO (gsumF Tq Iq))
          ∗ bigSep Finset.univ (fun ci : Fin 2 × Fin 16 => barCarry (F := F) (q + 1) d (ci.1.castLE (by decide)) (ci.2.castLE (by decide)))) := by
  rw [bigSep_univ_prod]
  simp only [bigSep_two]
  unfold dnPay
  have hrow : ∀ c : Fin 2, (bigSep Finset.univ fun i : Fin 16 =>
        (iprop(∃ fo, (ℓo ↦[RowsO (wid c i)]{fullShare} fo) ∗ ⌜SumRel (wid c i) Tq Iq (rdO fo)⌝) : sProp 𝕄))
      ⊢ bigSep Finset.univ fun i : Fin 16 => (ℓo ↦[RowsO (wid c i)]{fullShare} wrO (gsumF Tq Iq) : sProp 𝕄) := fun c =>
    bigSep_mono fun i _ => row_congr ℓo RowsO rdO wrO Tq Iq hmem (wid c i)
  iintro ⟨Htd, Hid, ⟨Ht0, Hi0, Ho0, Hb0⟩, ⟨Ht1, Hi1, Ho1, Hb1⟩⟩
  isplitl [Htd Ht0 Ht1]
  · iapply (toks2 ℓt (wrT Tq)).2
    isplitl [Htd]; · iexact Htd
    isplitl [Ht0]; · iexact Ht0
    iexact Ht1
  isplitl [Hid Hi0 Hi1]
  · iapply (toks2 ℓi (wrI Iq)).2
    isplitl [Hid]; · iexact Hid
    isplitl [Hi0]; · iexact Hi0
    iexact Hi1
  isplitl [Ho0 Ho1]
  · iapply (Entails.of_eq (rows_split ℓo RowsO hdisj hcover (wrO (gsumF Tq Iq))).symm)
    isplitl [Ho0]
    · iapply (hrow 0); iexact Ho0
    · iapply (hrow 1); iexact Ho1
  isplitl [Hb0]; · iexact Hb0
  iexact Hb1

end Call

/-! ## The three calls -/

variable [FloatOps F] (Tb : Fin 3 → Dev nD → S10000x128.Idx → F .f32) (Ib : Dev nD → S32x10496.Idx → BitVec 32)

/-- CALL 0: from the TensorCore's state before it, the table, the index table (every entry naming a row) and the output
    whole, and the tiles' barrier cells at round 0, the call runs on to the state after it, the tables back whole, the
    output at the neighbour sums of the table, and the barrier cells one round on. -/
theorem wp_call0 (κ : GSem nD τ sig → ℕ) (lv : GSem nD τ sig → HIx 3 → ℕ) (hlv : (K (F := F)).Refines lv) (d : Dev nD) {Φ : PUnit → sProp 𝕄} :
    iprop((K (F := F)).ctx EH (P Tb Ib) κ lv ∗ (K (F := F)).tcSt EH d 0
        ∗ (tab0 d ↦{fullShare} wrT0 d (Tb 0 d)) ∗ (idxLoc d ↦{fullShare} wrI d (Ib d)) ∗ ⌜∀ w, IdxOk w (Ib d)⌝
        ∗ (∃ f, out0 d ↦{fullShare} f)
        ∗ (bigSep Finset.univ fun ci : Fin 2 × Fin 16 => barCarry (F := F) 0 d (ci.1.castLE (by decide)) (ci.2.castLE (by decide)))
        ∗ (iprop((K (F := F)).tcSt EH d 1
              ∗ (tab0 d ↦{fullShare} wrT0 d (Tb 0 d)) ∗ (idxLoc d ↦{fullShare} wrI d (Ib d))
              ∗ (out0 d ↦{fullShare} (gsumF (Tb 0 d) (Ib d) : Buf (Elt F) (out0 d)))
              ∗ bigSep Finset.univ fun ci : Fin 2 × Fin 16 => barCarry (F := F) 1 d (ci.1.castLE (by decide)) (ci.2.castLE (by decide)))
            -∗ Φ ⟨⟩))
      ⊢ wp frame (wpE ((K (F := F)).defs D) 𝒱 (T d) none) Set.univ ((K (F := F)).run d 0) Φ := by
  iintro ⟨#Hctx, Hst, Ht, Hi, %hok, Ho, Hb, Hk⟩
  ihave Hs := (st_intro (tab0 d) (idxLoc d) (out0 d) (fun w => (outRect w).set) (wrT0 d) (wrI d) (Tb 0 d) (Ib d)
    outRect_disjoint outRect_cover 0 d) $$ [Ht Hi Ho Hb]
  · isplitl [Ht]; · iexact Ht
    isplitl [Hi]; · iexact Hi
    isplitr; · ipureintro; exact hok
    isplitl [Ho]; · iexact Ho
    iexact Hb
  icases Hs with ⟨Htd, Hid, Hst2⟩
  iapply ((K (F := F)).wp_run (D (F := F)) 𝒱 (EH := EH) (P := P Tb Ib) κ d 0 lv hlv)
  isplitr; · iexact Hctx
  isplitl [Hst]; · iexact Hst
  isplitl [Hst2]; · iexact Hst2
  iintro ⟨Hst, Hdn⟩
  iapply Hk
  isplitl [Hst]; · iexact Hst
  iapply (dn_elim (tab0 d) (idxLoc d) (out0 d) (fun w => (outRect w).set) (wrT0 d) (wrI d) (rdO0 d) (fun f => f) (Tb 0 d) (Ib d)
    outRect_disjoint outRect_cover (fun w fo h => agree_of_sumRel (Tb 0 d) (Ib d) w fo h) 0 d)
  isplitl [Htd]; · iexact Htd
  isplitl [Hid]; · iexact Hid
  iexact Hdn

/-- CALL 1: from the TensorCore's state before it, the table, the index table (every entry naming a row) and the output
    whole, and the tiles' barrier cells at round 1, the call runs on to the state after it, the tables back whole, the
    output at the neighbour sums of the table, and the barrier cells one round on. -/
theorem wp_call1 (κ : GSem nD τ sig → ℕ) (lv : GSem nD τ sig → HIx 3 → ℕ) (hlv : (K (F := F)).Refines lv) (d : Dev nD) {Φ : PUnit → sProp 𝕄} :
    iprop((K (F := F)).ctx EH (P Tb Ib) κ lv ∗ (K (F := F)).tcSt EH d 1
        ∗ (tab1 d ↦{fullShare} wrT1 d (Tb 1 d)) ∗ (idxLoc d ↦{fullShare} wrI d (Ib d)) ∗ ⌜∀ w, IdxOk w (Ib d)⌝
        ∗ (∃ f, out1 d ↦{fullShare} f)
        ∗ (bigSep Finset.univ fun ci : Fin 2 × Fin 16 => barCarry (F := F) 1 d (ci.1.castLE (by decide)) (ci.2.castLE (by decide)))
        ∗ (iprop((K (F := F)).tcSt EH d 2
              ∗ (tab1 d ↦{fullShare} wrT1 d (Tb 1 d)) ∗ (idxLoc d ↦{fullShare} wrI d (Ib d))
              ∗ (out1 d ↦{fullShare} (gsumF (Tb 1 d) (Ib d) : Buf (Elt F) (out1 d)))
              ∗ bigSep Finset.univ fun ci : Fin 2 × Fin 16 => barCarry (F := F) 2 d (ci.1.castLE (by decide)) (ci.2.castLE (by decide)))
            -∗ Φ ⟨⟩))
      ⊢ wp frame (wpE ((K (F := F)).defs D) 𝒱 (T d) none) Set.univ ((K (F := F)).run d 1) Φ := by
  iintro ⟨#Hctx, Hst, Ht, Hi, %hok, Ho, Hb, Hk⟩
  ihave Hs := (st_intro (tab1 d) (idxLoc d) (out1 d) (fun w => (outRect w).set) (wrT1 d) (wrI d) (Tb 1 d) (Ib d)
    outRect_disjoint outRect_cover 1 d) $$ [Ht Hi Ho Hb]
  · isplitl [Ht]; · iexact Ht
    isplitl [Hi]; · iexact Hi
    isplitr; · ipureintro; exact hok
    isplitl [Ho]; · iexact Ho
    iexact Hb
  icases Hs with ⟨Htd, Hid, Hst2⟩
  iapply ((K (F := F)).wp_run (D (F := F)) 𝒱 (EH := EH) (P := P Tb Ib) κ d 1 lv hlv)
  isplitr; · iexact Hctx
  isplitl [Hst]; · iexact Hst
  isplitl [Hst2]; · iexact Hst2
  iintro ⟨Hst, Hdn⟩
  iapply Hk
  isplitl [Hst]; · iexact Hst
  iapply (dn_elim (tab1 d) (idxLoc d) (out1 d) (fun w => (outRect w).set) (wrT1 d) (wrI d) (rdO1 d) (fun f => f) (Tb 1 d) (Ib d)
    outRect_disjoint outRect_cover (fun w fo h => agree_of_sumRel (Tb 1 d) (Ib d) w fo h) 1 d)
  isplitl [Htd]; · iexact Htd
  isplitl [Hid]; · iexact Hid
  iexact Hdn

/-- CALL 2: from the TensorCore's state before it, the table, the index table (every entry naming a row) and the output
    whole, and the tiles' barrier cells at round 2, the call runs on to the state after it, the tables back whole, the
    output at the neighbour sums of the table, and the barrier cells one round on. -/
theorem wp_call2 (κ : GSem nD τ sig → ℕ) (lv : GSem nD τ sig → HIx 3 → ℕ) (hlv : (K (F := F)).Refines lv) (d : Dev nD) {Φ : PUnit → sProp 𝕄} :
    iprop((K (F := F)).ctx EH (P Tb Ib) κ lv ∗ (K (F := F)).tcSt EH d 2
        ∗ (tab2 d ↦{fullShare} wrT2 d (Tb 2 d)) ∗ (idxLoc d ↦{fullShare} wrI d (Ib d)) ∗ ⌜∀ w, IdxOk w (Ib d)⌝
        ∗ (∃ f, out2 d ↦{fullShare} f)
        ∗ (bigSep Finset.univ fun ci : Fin 2 × Fin 16 => barCarry (F := F) 2 d (ci.1.castLE (by decide)) (ci.2.castLE (by decide)))
        ∗ (iprop((K (F := F)).tcSt EH d 3
              ∗ (tab2 d ↦{fullShare} wrT2 d (Tb 2 d)) ∗ (idxLoc d ↦{fullShare} wrI d (Ib d))
              ∗ (out2 d ↦{fullShare} (gsumF (Tb 2 d) (Ib d) : Buf (Elt F) (out2 d)))
              ∗ bigSep Finset.univ fun ci : Fin 2 × Fin 16 => barCarry (F := F) 3 d (ci.1.castLE (by decide)) (ci.2.castLE (by decide)))
            -∗ Φ ⟨⟩))
      ⊢ wp frame (wpE ((K (F := F)).defs D) 𝒱 (T d) none) Set.univ ((K (F := F)).run d 2) Φ := by
  iintro ⟨#Hctx, Hst, Ht, Hi, %hok, Ho, Hb, Hk⟩
  ihave Hs := (st_intro (tab2 d) (idxLoc d) (out2 d) (fun w => (outRect w).set) (wrT2 d) (wrI d) (Tb 2 d) (Ib d)
    outRect_disjoint outRect_cover 2 d) $$ [Ht Hi Ho Hb]
  · isplitl [Ht]; · iexact Ht
    isplitl [Hi]; · iexact Hi
    isplitr; · ipureintro; exact hok
    isplitl [Ho]; · iexact Ho
    iexact Hb
  icases Hs with ⟨Htd, Hid, Hst2⟩
  iapply ((K (F := F)).wp_run (D (F := F)) 𝒱 (EH := EH) (P := P Tb Ib) κ d 2 lv hlv)
  isplitr; · iexact Hctx
  isplitl [Hst]; · iexact Hst
  isplitl [Hst2]; · iexact Hst2
  iintro ⟨Hst, Hdn⟩
  iapply Hk
  isplitl [Hst]; · iexact Hst
  iapply (dn_elim (tab2 d) (idxLoc d) (out2 d) (fun w => (outRect w).set) (wrT2 d) (wrI d) (rdO2 d) (fun f => f) (Tb 2 d) (Ib d)
    outRect_disjoint outRect_cover (fun w fo h => agree_of_sumRel (Tb 2 d) (Ib d) w fo h) 2 d)
  isplitl [Htd]; · iexact Htd
  isplitl [Hid]; · iexact Hid
  iexact Hdn

end Cert.Proof.KI

end
-- ==== Proof.ScSteps.lean ====
/-
  The steps of @main on the TensorCore, over the set of arrays it holds whole: one array taken out of the set and put
  back, what the TensorCore owes between calls, the host prefix's buffers, and a SparseCore call (its operands handed
  to the two SparseCores as read tokens and output rows, its results taken back, the sums' array at its new contents).
-/
import proofs.«205366_g3083786518796_cont_9to1_852_38_alg».proof.Proof.ScFin
import proofs.«205366_g3083786518796_cont_9to1_852_38_alg».proof.Proof.ScNames
import proofs.«205366_g3083786518796_cont_9to1_852_38_alg».proof.Proof.HostPrefix
import proofs.«205366_g3083786518796_cont_9to1_852_38_alg».proof.Proof.ScGhost
import proofs.«205366_g3083786518796_cont_9to1_852_38_alg».proof.Proof.TcHeld
import proofs.«205366_g3083786518796_cont_9to1_852_38_alg».proof.Proof.ScVals
import proofs.«205366_g3083786518796_cont_9to1_852_38_alg».proof.Proof.ScCall

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq)

variable {F : FTy → Type} [FloatOps F]

local notation "𝕄" => MT nD τ sig (HIx 3) (Elt F) ℕ UU ℕ

variable (m : (ℓ : Loc nD τ sig) → Buf (Elt F) ℓ) (ρ : Dev nD → PrngReg)

/-! ## The TensorCore's arrays -/

/-- The launch contents as a valuation. -/
def V0 (d : Dev nD) : Valuation τ sig (Elt F) := fun b => m (d, b)

theorem unscoped_held (d : Dev nD) :
    (unscopedBufs d (fun b => m ((SparseCore.T d).loc b)) : sProp 𝕄) = held (T d) Sall (V0 m d) := by
  exact unscopedBufs_Sall d (V0 m d)

/-! ## One array out of the held set, and back -/

theorem held_take {c : Thread nD τ} {S : Finset (DevRef τ sig)} {b : DevRef τ sig} (hb : b ∈ S) (W : Valuation τ sig (Elt F)) :
    (held c S W : sProp 𝕄) = iprop(((c.1, b) ↦{fullShare} W b) ∗ held c (S.erase b) W) := by
  unfold held; exact SparseCore.bigSep_erase' hb

theorem held_put {c : Thread nD τ} {S : Finset (DevRef τ sig)} {b : DevRef τ sig} (hb : b ∈ S) (W : Valuation τ sig (Elt F)) (f : b.ty.Contents (Elt F)) :
    (iprop(((c.1, b) ↦{fullShare} f) ∗ held c (S.erase b) W) : sProp 𝕄) = held c S (Function.update W b f) := by
  rw [held_take hb (Function.update W b f), Function.update_self,
    StableHlo.held_congr c (S := S.erase b) (V := Function.update W b f) (V' := W) fun x hx => Function.update_of_ne (Finset.ne_of_mem_erase hx) _ _]

/-! ## What the TensorCore owes between calls sits above every wait of a region -/

theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

/-- A region's waits are recorded at no call's index: the recorded pairs stay below any level. -/
theorem wbelow_of_none {d : Dev nD} {Wt Wt' : Waits sig (HIx 3)} {b : ℕ} (hW : (K (F := F)).WBelow (T d) Wt b)
    (h : ∀ p ∈ Wt', p ∈ Wt ∨ p.2 = none) : (K (F := F)).WBelow (T d) Wt' b := by
  intro p hp
  rcases h p hp with h | h
  · exact hW p h
  · rw [h]; exact Nat.zero_le _

/-! ## The host prefix -/

theorem Spre_sub : (Cert.KernelIdeal.HostPre.Spre : Finset (DevRef τ sig)) ⊆ Sall := by
  intro b hb
  simp only [Cert.KernelIdeal.HostPre.Spre, Finset.mem_insert, Finset.mem_singleton] at hb
  rcases hb with rfl | rfl | rfl | rfl | rfl | rfl | rfl | rfl | rfl | rfl | rfl | rfl <;> exact mem_Sall rfl

variable (hok : ∀ d w, IdxOk w (IbOf m d))

/-! ## A SparseCore call, over the held arrays -/

theorem pts_congr {ℓ : Loc nD τ sig} {q : PosShare TreeShare} {f g : Buf (Elt F) ℓ} (h : f = g) : (ℓ ↦{q} f : sProp 𝕄) ⊢ (ℓ ↦{q} g : sProp 𝕄) := by
  rw [h]

theorem held_erase_update {c : Thread nD τ} {S : Finset (DevRef τ sig)} {b : DevRef τ sig} (W : Valuation τ sig (Elt F)) (f : b.ty.Contents (Elt F)) :
    (held c (S.erase b) W : sProp 𝕄) = held c (S.erase b) (Function.update W b f) :=
  StableHlo.held_congr c fun x hx => (Function.update_of_ne (Finset.ne_of_mem_erase hx) _ _).symm

/-- The tiles' barrier cells, indexed by the topology's own ranges. -/
abbrev barAll (q : ℕ) (d : Dev nD) : sProp 𝕄 := bigSep Finset.univ fun ci : Fin τ.nSC × Fin τ.nSub => barCarry (F := F) q d ci.1 ci.2

set_option maxRecDepth 131072 in
include hok in
/-- The first call: `x`, the index table and the sums' array go to the two SparseCores and come back, the sums written. -/
theorem call_step0 (κ : GSem nD τ sig → ℕ) (d : Dev nD) {Φ : PUnit → sProp 𝕄} :
    iprop((K (F := F)).ctx EH (P (F := F) (TbOf m) (IbOf m)) κ ∗ (K (F := F)).tcSt EH d 0 ∗ held (T d) Sall (W1 m d) ∗ barAll 0 d
        ∗ (iprop((K (F := F)).tcSt EH d 1 ∗ held (T d) Sall (W2 m d) ∗ barAll 1 d) -∗ Φ ⟨⟩))
      ⊢ wp frame (wpE ((K (F := F)).defs (D (F := F))) 𝒱 (SparseCore.T d) none) Set.univ ((K (F := F)).run d 0) Φ := by
  have hW2 : W2 m d = Function.update (W1 m d) (Proc.devRef .tc main_v8) (gsumF (W1 m d (Proc.devRef .tc main_arg0)) (W1 m d (Proc.devRef .tc main_v7))) := rfl
  have hS : (held (T d) (((Sall.erase (Proc.devRef .tc main_arg0)).erase (Proc.devRef .tc main_v7)).erase (Proc.devRef .tc main_v8)) (W1 m d) : sProp 𝕄)
      = held (T d) (((Sall.erase (Proc.devRef .tc main_arg0)).erase (Proc.devRef .tc main_v7)).erase (Proc.devRef .tc main_v8)) (W2 m d) := by
    rw [hW2]; exact held_erase_update _ _
  iintro ⟨#Hctx, Hst, Hheld, Hbar, Hk⟩
  ihave H := (Entails.of_eq (held_take (mem_Sall (b := main_arg0) rfl) (W1 m d))) $$ Hheld
  icases H with ⟨Htab, Hheld⟩
  ihave H := (Entails.of_eq (held_take (Finset.mem_erase.mpr ⟨dne main_v7 main_arg0, mem_Sall (b := main_v7) rfl⟩) (W1 m d))) $$ Hheld
  icases H with ⟨Hidx, Hheld⟩
  ihave H := (Entails.of_eq (held_take (Finset.mem_erase.mpr ⟨dne main_v8 main_v7, Finset.mem_erase.mpr ⟨dne main_v8 main_arg0, mem_Sall (b := main_v8) rfl⟩⟩) (W1 m d))) $$ Hheld
  icases H with ⟨Hout, Hheld⟩
  iapply (wp_call0 (TbOf m) (IbOf m) κ (K (F := F)).lev (by sl_refines_lev) d) $$ [Hst Htab Hidx Hout Hbar Hheld Hk]
  isplitr; · iexact Hctx
  isplitl [Hst]; · iexact Hst
  isplitl [Htab]; · iapply (pts_congr (ℓ := tab0 d) (q := fullShare) (W1_arg0 m d)); iexact Htab
  isplitl [Hidx]; · iapply (pts_congr (ℓ := idxLoc d) (q := fullShare) (W1_v7 m d)); iexact Hidx
  isplitr; · ipureintro; exact hok d
  isplitl [Hout]; · iexists _; iexact Hout
  isplitl [Hbar]; · iexact Hbar
  iintro ⟨Hst, Htab, Hidx, Hout, Hbar⟩
  iapply Hk
  isplitl [Hst]; · iexact Hst
  isplitr [Hbar]
  · -- the three arrays back into the held set, the sums' array at its new contents
    ihave Hout := (pts_congr (ℓ := out0 d) (q := fullShare) (f := (gsumF (TbOf m 0 d) (IbOf m d) : S10240x128.Idx → F .f32)) (g := W2 m d (Proc.devRef .tc main_v8)) (W2_v8 m d).symm) $$ Hout
    ihave Hheld := (Entails.of_eq hS) $$ Hheld
    ihave Hheld := (Entails.of_eq (held_take (Finset.mem_erase.mpr ⟨dne main_v8 main_v7, Finset.mem_erase.mpr ⟨dne main_v8 main_arg0, mem_Sall (b := main_v8) rfl⟩⟩) (W2 m d)).symm) $$ [Hout Hheld]
    · isplitl [Hout] <;> iassumption
    ihave Hidx := (pts_congr (ℓ := idxLoc d) (q := fullShare) (W2_v7 m d).symm) $$ Hidx
    ihave Hheld := (Entails.of_eq (held_take (Finset.mem_erase.mpr ⟨dne main_v7 main_arg0, mem_Sall (b := main_v7) rfl⟩) (W2 m d)).symm) $$ [Hidx Hheld]
    · isplitl [Hidx] <;> iassumption
    ihave Htab := (pts_congr (ℓ := tab0 d) (q := fullShare) (f := wrT0 d (TbOf m 0 d)) (g := W2 m d (Proc.devRef .tc main_arg0)) (W2_arg0 m d).symm) $$ Htab
    iapply (Entails.of_eq (held_take (mem_Sall (b := main_arg0) rfl) (W2 m d)).symm)
    isplitl [Htab] <;> iassumption
  · iexact Hbar

end Cert.Proof.KI

end
-- ==== Proof.ScSteps12.lean ====
/-
  The second and third SparseCore calls of @main, over the set of arrays the TensorCore holds whole: the call's
  table, the index table and the sums' array go to the two SparseCores and come back, the sums written.
-/
import proofs.«205366_g3083786518796_cont_9to1_852_38_alg».proof.Proof.ScSteps

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq)

variable {F : FTy → Type} [FloatOps F]

local notation "𝕄" => MT nD τ sig (HIx 3) (Elt F) ℕ UU ℕ

variable (m : (ℓ : Loc nD τ sig) → Buf (Elt F) ℓ) (ρ : Dev nD → PrngReg)

variable (hok : ∀ d w, IdxOk w (IbOf m d))

set_option maxRecDepth 131072 in
include hok in
/-- The second call: the first layer's result, the index table and the sums' array go to the two SparseCores and come back, the sums written. -/
theorem call_step1 (κ : GSem nD τ sig → ℕ) (d : Dev nD) {Φ : PUnit → sProp 𝕄} :
    iprop((K (F := F)).ctx EH (P (F := F) (TbOf m) (IbOf m)) κ ∗ (K (F := F)).tcSt EH d 1 ∗ held (T d) Sall (W5 m d) ∗ barAll 1 d
        ∗ (iprop((K (F := F)).tcSt EH d 2 ∗ held (T d) Sall (W6 m d) ∗ barAll 2 d) -∗ Φ ⟨⟩))
      ⊢ wp frame (wpE ((K (F := F)).defs (D (F := F))) 𝒱 (SparseCore.T d) none) Set.univ ((K (F := F)).run d 1) Φ := by
  have hW6 : W6 m d = Function.update (W5 m d) (Proc.devRef .tc main_v12) (gsumF (W5 m d (Proc.devRef .tc main_v11_0)) (W5 m d (Proc.devRef .tc main_v7))) := rfl
  have hS : (held (T d) (((Sall.erase (Proc.devRef .tc main_v11_0)).erase (Proc.devRef .tc main_v7)).erase (Proc.devRef .tc main_v12)) (W5 m d) : sProp 𝕄)
      = held (T d) (((Sall.erase (Proc.devRef .tc main_v11_0)).erase (Proc.devRef .tc main_v7)).erase (Proc.devRef .tc main_v12)) (W6 m d) := by
    rw [hW6]; exact held_erase_update _ _
  iintro ⟨#Hctx, Hst, Hheld, Hbar, Hk⟩
  ihave H := (Entails.of_eq (held_take (mem_Sall (b := main_v11_0) rfl) (W5 m d))) $$ Hheld
  icases H with ⟨Htab, Hheld⟩
  ihave H := (Entails.of_eq (held_take (Finset.mem_erase.mpr ⟨dne main_v7 main_v11_0, mem_Sall (b := main_v7) rfl⟩) (W5 m d))) $$ Hheld
  icases H with ⟨Hidx, Hheld⟩
  ihave H := (Entails.of_eq (held_take (Finset.mem_erase.mpr ⟨dne main_v12 main_v7, Finset.mem_erase.mpr ⟨dne main_v12 main_v11_0, mem_Sall (b := main_v12) rfl⟩⟩) (W5 m d))) $$ Hheld
  icases H with ⟨Hout, Hheld⟩
  iapply (wp_call1 (TbOf m) (IbOf m) κ (K (F := F)).lev (by sl_refines_lev) d) $$ [Hst Htab Hidx Hout Hbar Hheld Hk]
  isplitr; · iexact Hctx
  isplitl [Hst]; · iexact Hst
  isplitl [Htab]; · iapply (pts_congr (ℓ := tab1 d) (q := fullShare) (W5_v11_0 m d)); iexact Htab
  isplitl [Hidx]; · iapply (pts_congr (ℓ := idxLoc d) (q := fullShare) (W5_v7 m d)); iexact Hidx
  isplitr; · ipureintro; exact hok d
  isplitl [Hout]; · iexists _; iexact Hout
  isplitl [Hbar]; · iexact Hbar
  iintro ⟨Hst, Htab, Hidx, Hout, Hbar⟩
  iapply Hk
  isplitl [Hst]; · iexact Hst
  isplitr [Hbar]
  · -- the three arrays back into the held set, the sums' array at its new contents
    ihave Hout := (pts_congr (ℓ := out1 d) (q := fullShare) (f := (gsumF (TbOf m 1 d) (IbOf m d) : S10240x128.Idx → F .f32)) (g := W6 m d (Proc.devRef .tc main_v12)) (W6_v12 m d).symm) $$ Hout
    ihave Hheld := (Entails.of_eq hS) $$ Hheld
    ihave Hheld := (Entails.of_eq (held_take (Finset.mem_erase.mpr ⟨dne main_v12 main_v7, Finset.mem_erase.mpr ⟨dne main_v12 main_v11_0, mem_Sall (b := main_v12) rfl⟩⟩) (W6 m d)).symm) $$ [Hout Hheld]
    · isplitl [Hout] <;> iassumption
    ihave Hidx := (pts_congr (ℓ := idxLoc d) (q := fullShare) (W6_v7 m d).symm) $$ Hidx
    ihave Hheld := (Entails.of_eq (held_take (Finset.mem_erase.mpr ⟨dne main_v7 main_v11_0, mem_Sall (b := main_v7) rfl⟩) (W6 m d)).symm) $$ [Hidx Hheld]
    · isplitl [Hidx] <;> iassumption
    ihave Htab := (pts_congr (ℓ := tab1 d) (q := fullShare) (f := wrT1 d (TbOf m 1 d)) (g := W6 m d (Proc.devRef .tc main_v11_0)) (W6_v11_0 m d).symm) $$ Htab
    iapply (Entails.of_eq (held_take (mem_Sall (b := main_v11_0) rfl) (W6 m d)).symm)
    isplitl [Htab] <;> iassumption
  · iexact Hbar

set_option maxRecDepth 131072 in
include hok in
/-- The third call: the second layer's result, the index table and the sums' array go to the two SparseCores and come back, the sums written. -/
theorem call_step2 (κ : GSem nD τ sig → ℕ) (d : Dev nD) {Φ : PUnit → sProp 𝕄} :
    iprop((K (F := F)).ctx EH (P (F := F) (TbOf m) (IbOf m)) κ ∗ (K (F := F)).tcSt EH d 2 ∗ held (T d) Sall (W8 m d) ∗ barAll 2 d
        ∗ (iprop((K (F := F)).tcSt EH d 3 ∗ held (T d) Sall (W9 m d) ∗ barAll 3 d) -∗ Φ ⟨⟩))
      ⊢ wp frame (wpE ((K (F := F)).defs (D (F := F))) 𝒱 (SparseCore.T d) none) Set.univ ((K (F := F)).run d 2) Φ := by
  have hW9 : W9 m d = Function.update (W8 m d) (Proc.devRef .tc main_v15) (gsumF (W8 m d (Proc.devRef .tc main_v14_0)) (W8 m d (Proc.devRef .tc main_v7))) := rfl
  have hS : (held (T d) (((Sall.erase (Proc.devRef .tc main_v14_0)).erase (Proc.devRef .tc main_v7)).erase (Proc.devRef .tc main_v15)) (W8 m d) : sProp 𝕄)
      = held (T d) (((Sall.erase (Proc.devRef .tc main_v14_0)).erase (Proc.devRef .tc main_v7)).erase (Proc.devRef .tc main_v15)) (W9 m d) := by
    rw [hW9]; exact held_erase_update _ _
  iintro ⟨#Hctx, Hst, Hheld, Hbar, Hk⟩
  ihave H := (Entails.of_eq (held_take (mem_Sall (b := main_v14_0) rfl) (W8 m d))) $$ Hheld
  icases H with ⟨Htab, Hheld⟩
  ihave H := (Entails.of_eq (held_take (Finset.mem_erase.mpr ⟨dne main_v7 main_v14_0, mem_Sall (b := main_v7) rfl⟩) (W8 m d))) $$ Hheld
  icases H with ⟨Hidx, Hheld⟩
  ihave H := (Entails.of_eq (held_take (Finset.mem_erase.mpr ⟨dne main_v15 main_v7, Finset.mem_erase.mpr ⟨dne main_v15 main_v14_0, mem_Sall (b := main_v15) rfl⟩⟩) (W8 m d))) $$ Hheld
  icases H with ⟨Hout, Hheld⟩
  iapply (wp_call2 (TbOf m) (IbOf m) κ (K (F := F)).lev (by sl_refines_lev) d) $$ [Hst Htab Hidx Hout Hbar Hheld Hk]
  isplitr; · iexact Hctx
  isplitl [Hst]; · iexact Hst
  isplitl [Htab]; · iapply (pts_congr (ℓ := tab2 d) (q := fullShare) (W8_v14_0 m d)); iexact Htab
  isplitl [Hidx]; · iapply (pts_congr (ℓ := idxLoc d) (q := fullShare) (W8_v7 m d)); iexact Hidx
  isplitr; · ipureintro; exact hok d
  isplitl [Hout]; · iexists _; iexact Hout
  isplitl [Hbar]; · iexact Hbar
  iintro ⟨Hst, Htab, Hidx, Hout, Hbar⟩
  iapply Hk
  isplitl [Hst]; · iexact Hst
  isplitr [Hbar]
  · -- the three arrays back into the held set, the sums' array at its new contents
    ihave Hout := (pts_congr (ℓ := out2 d) (q := fullShare) (f := (gsumF (TbOf m 2 d) (IbOf m d) : S10240x128.Idx → F .f32)) (g := W9 m d (Proc.devRef .tc main_v15)) (W9_v15 m d).symm) $$ Hout
    ihave Hheld := (Entails.of_eq hS) $$ Hheld
    ihave Hheld := (Entails.of_eq (held_take (Finset.mem_erase.mpr ⟨dne main_v15 main_v7, Finset.mem_erase.mpr ⟨dne main_v15 main_v14_0, mem_Sall (b := main_v15) rfl⟩⟩) (W9 m d)).symm) $$ [Hout Hheld]
    · isplitl [Hout] <;> iassumption
    ihave Hidx := (pts_congr (ℓ := idxLoc d) (q := fullShare) (W9_v7 m d).symm) $$ Hidx
    ihave Hheld := (Entails.of_eq (held_take (Finset.mem_erase.mpr ⟨dne main_v7 main_v14_0, mem_Sall (b := main_v7) rfl⟩) (W9 m d)).symm) $$ [Hidx Hheld]
    · isplitl [Hidx] <;> iassumption
    ihave Htab := (pts_congr (ℓ := tab2 d) (q := fullShare) (f := wrT2 d (TbOf m 2 d)) (g := W9 m d (Proc.devRef .tc main_v14_0)) (W9_v14_0 m d).symm) $$ Htab
    iapply (Entails.of_eq (held_take (mem_Sall (b := main_v14_0) rfl) (W9 m d)).symm)
    isplitl [Htab] <;> iassumption
  · iexact Hbar

/-! ## The final reading -/

/-- The fourteen argument arrays are among the arrays the TensorCore holds, apart from the result array. -/
theorem argRefs_sub : argRefs.image (Proc.devRef .tc) ⊆ (Sall : Finset (DevRef τ sig)).erase (Proc.devRef .tc main_v17) := by
  intro b hb
  obtain ⟨a, ha, rfl⟩ := Finset.mem_image.mp hb
  simp only [argRefs, Finset.mem_insert, Finset.mem_singleton] at ha
  rcases ha with rfl | rfl | rfl | rfl | rfl | rfl | rfl | rfl | rfl | rfl | rfl | rfl | rfl | rfl <;>
    exact Finset.mem_erase.mpr ⟨dne _ _, mem_Sall rfl⟩

/-- THE FINAL READING: what the TensorCore holds after the last region gives every argument array whole at its launch
    contents and the result array whole at the program's value; the other arrays are let go. -/
theorem fin_of_held (d : Dev nD) : (held (T d : Thread nD τ) Sall (W11 m d) : sProp 𝕄) ⊢ FIN m (ResOf m) d := by
  unfold FIN
  have hargs : (held (T d : Thread nD τ) (argRefs.image (Proc.devRef .tc)) (W11 m d) : sProp 𝕄)
      ⊢ bigSep argRefs fun b => ((SparseCore.T d).loc b ↦{fullShare} m ((SparseCore.T d).loc b) : sProp 𝕄) := by
    unfold held
    rw [SparseCore.bigSep_image_of_injOn (fun a _ b _ h => Proc.devRef_injective _ h)]
    refine bigSep_mono fun b hb => ?_
    simp only [argRefs, Finset.mem_insert, Finset.mem_singleton] at hb
    rcases hb with rfl | rfl | rfl | rfl | rfl | rfl | rfl | rfl | rfl | rfl | rfl | rfl | rfl | rfl
    · exact pts_congr (ℓ := (SparseCore.T d).loc main_arg0) (q := fullShare) (W11_arg0 m d)
    · exact pts_congr (ℓ := (SparseCore.T d).loc main_arg1) (q := fullShare) (W11_arg1 m d)
    · exact pts_congr (ℓ := (SparseCore.T d).loc main_arg2) (q := fullShare) (W11_arg2 m d)
    · exact pts_congr (ℓ := (SparseCore.T d).loc main_arg3) (q := fullShare) (W11_arg3 m d)
    · exact pts_congr (ℓ := (SparseCore.T d).loc main_arg4) (q := fullShare) (W11_arg4 m d)
    · exact pts_congr (ℓ := (SparseCore.T d).loc main_arg5) (q := fullShare) (W11_arg5 m d)
    · exact pts_congr (ℓ := (SparseCore.T d).loc main_arg6) (q := fullShare) (W11_arg6 m d)
    · exact pts_congr (ℓ := (SparseCore.T d).loc main_arg7) (q := fullShare) (W11_arg7 m d)
    · exact pts_congr (ℓ := (SparseCore.T d).loc main_arg8) (q := fullShare) (W11_arg8 m d)
    · exact pts_congr (ℓ := (SparseCore.T d).loc main_arg9) (q := fullShare) (W11_arg9 m d)
    · exact pts_congr (ℓ := (SparseCore.T d).loc main_arg10) (q := fullShare) (W11_arg10 m d)
    · exact pts_congr (ℓ := (SparseCore.T d).loc main_arg11) (q := fullShare) (W11_arg11 m d)
    · exact pts_congr (ℓ := (SparseCore.T d).loc main_arg12) (q := fullShare) (W11_arg12 m d)
    · exact pts_congr (ℓ := (SparseCore.T d).loc main_arg13) (q := fullShare) (W11_arg13 m d)
  rw [held_take (mem_Sall (b := main_v17) rfl) (W11 m d), StableHlo.held_sub_split (T d) argRefs_sub (W11 m d)]
  iintro ⟨Hv, Hargs, -⟩
  isplitl [Hargs]
  · iapply hargs; iexact Hargs
  · iapply (pts_congr (ℓ := resLoc d) (q := fullShare) (W11_v17 m d)); iexact Hv

end Cert.Proof.KI

end
-- ==== Proof.ScRegSteps.lean ====
import proofs.«205366_g3083786518796_cont_9to1_852_38_alg».proof.Proof.ScSteps

noncomputable section

/-!
# The TensorCore's steps between SparseCore calls

A TensorCore region run while the TensorCore is in the handshake state before call `n`: what it owes the SparseCores
rides through the region, whose own waits are recorded at no call's index; the arrays go from one valuation to the
region's update of it.  And the three reshapes of a bias vector [128] into a row [1,128], as steps over all the
TensorCore's arrays held at a valuation.
-/

namespace Cert.Proof.KI

open Cert.KernelIdeal Cert.KernelIdeal.Gen Cert.KernelIdeal.Regions

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq)

variable {F : FTy → Type} [FloatOps F]

local notation "𝕄" => MT nD τ sig (HIx 3) (Elt F) ℕ UU ℕ

/-! ## The regions after the first -/

/-- Region 1 while the TensorCore is in the handshake state before call `n`. -/
theorem region_step1 (κ : GSem nD τ sig → ℕ) (d : Dev nD) (n : ℕ) (Wk : Valuation τ sig (Elt F)) {α : Type}
    (k : PUnit → Prog (TpuEff nD τ sig (Elt F) (SparseCore.Sig (ΛP (F := F)) 3) .tc) α) (Φ : α → sProp 𝕄) (Tb Ib) :
    iprop((K (F := F)).ctx EH (P (F := F) Tb Ib) κ ∗ (K (F := F)).tcSt EH d n ∗ boundary (T d : Thread nD τ) ∗ held (T d : Thread nD τ) Sall Wk
        ∗ Pipeline.cellsGhost (Pipeline.pin (pcfgs (F := F)) adm) ER 1 d ∗ Pipeline.toksInit (Pipeline.pin (pcfgs (F := F)) adm) ER 1 d
        ∗ (iprop((K (F := F)).tcSt EH d n ∗ boundary (T d : Thread nD τ) ∗ held (T d : Thread nD τ) Sall (V1' Wk))
            -∗ wp frame (wpE ((K (F := F)).defs D) 𝒱 (T d) none) Set.univ (k ⟨⟩) Φ))
      ⊢ wp frame (wpE ((K (F := F)).defs D) 𝒱 (T d) none) Set.univ (Prog.lift (.customCall (SparseCore.inner (Pipeline.entry 1)) ()) >>= k) Φ := by
  unfold SparseCore.Cfg.tcSt
  iintro ⟨#Hctx, ⟨⟨%W, %hW, HO⟩, Hrest⟩, Hb, Hheld, Hcg, Htk, Hk⟩
  ihave #Hlev := (SparseCore.Cfg.ctx_levAts κ) $$ Hctx
  iapply (wp_region_held1 Wk ((K (F := F)).Otc d n) (Otc_none d n) (K (F := F)).lev (by sl_refines_lev) d W k Φ) $$ [HO Hrest Hb Hheld Hcg Htk Hk]
  isplitl [Hb]; · iexact Hb
  isplitl [Hheld]; · iexact Hheld
  isplitl [HO]; · iexact HO
  isplitr; · iexact Hlev
  isplitl [Hcg]; · iexact Hcg
  isplitl [Htk]; · iexact Htk
  iintro ⟨Hb, Hheld, %W', %hW', HO⟩
  iapply Hk
  isplitl [HO Hrest]
  · isplitl [HO]
    · iexists W'
      isplitr
      · ipureintro; exact wbelow_of_none hW hW'
      · iexact HO
    · iexact Hrest
  isplitl [Hb]; · iexact Hb
  iexact Hheld

/-- Region 2 while the TensorCore is in the handshake state before call `n`. -/
theorem region_step2 (κ : GSem nD τ sig → ℕ) (d : Dev nD) (n : ℕ) (Wk : Valuation τ sig (Elt F)) {α : Type}
    (k : PUnit → Prog (TpuEff nD τ sig (Elt F) (SparseCore.Sig (ΛP (F := F)) 3) .tc) α) (Φ : α → sProp 𝕄) (Tb Ib) :
    iprop((K (F := F)).ctx EH (P (F := F) Tb Ib) κ ∗ (K (F := F)).tcSt EH d n ∗ boundary (T d : Thread nD τ) ∗ held (T d : Thread nD τ) Sall Wk
        ∗ Pipeline.cellsGhost (Pipeline.pin (pcfgs (F := F)) adm) ER 2 d ∗ Pipeline.toksInit (Pipeline.pin (pcfgs (F := F)) adm) ER 2 d
        ∗ (iprop((K (F := F)).tcSt EH d n ∗ boundary (T d : Thread nD τ) ∗ held (T d : Thread nD τ) Sall (V2' Wk))
            -∗ wp frame (wpE ((K (F := F)).defs D) 𝒱 (T d) none) Set.univ (k ⟨⟩) Φ))
      ⊢ wp frame (wpE ((K (F := F)).defs D) 𝒱 (T d) none) Set.univ (Prog.lift (.customCall (SparseCore.inner (Pipeline.entry 2)) ()) >>= k) Φ := by
  unfold SparseCore.Cfg.tcSt
  iintro ⟨#Hctx, ⟨⟨%W, %hW, HO⟩, Hrest⟩, Hb, Hheld, Hcg, Htk, Hk⟩
  ihave #Hlev := (SparseCore.Cfg.ctx_levAts κ) $$ Hctx
  iapply (wp_region_held2 Wk ((K (F := F)).Otc d n) (Otc_none d n) (K (F := F)).lev (by sl_refines_lev) d W k Φ) $$ [HO Hrest Hb Hheld Hcg Htk Hk]
  isplitl [Hb]; · iexact Hb
  isplitl [Hheld]; · iexact Hheld
  isplitl [HO]; · iexact HO
  isplitr; · iexact Hlev
  isplitl [Hcg]; · iexact Hcg
  isplitl [Htk]; · iexact Htk
  iintro ⟨Hb, Hheld, %W', %hW', HO⟩
  iapply Hk
  isplitl [HO Hrest]
  · isplitl [HO]
    · iexists W'
      isplitr
      · ipureintro; exact wbelow_of_none hW hW'
      · iexact HO
    · iexact Hrest
  isplitl [Hb]; · iexact Hb
  iexact Hheld

/-- Region 3 while the TensorCore is in the handshake state before call `n`. -/
theorem region_step3 (κ : GSem nD τ sig → ℕ) (d : Dev nD) (n : ℕ) (Wk : Valuation τ sig (Elt F)) {α : Type}
    (k : PUnit → Prog (TpuEff nD τ sig (Elt F) (SparseCore.Sig (ΛP (F := F)) 3) .tc) α) (Φ : α → sProp 𝕄) (Tb Ib) :
    iprop((K (F := F)).ctx EH (P (F := F) Tb Ib) κ ∗ (K (F := F)).tcSt EH d n ∗ boundary (T d : Thread nD τ) ∗ held (T d : Thread nD τ) Sall Wk
        ∗ Pipeline.cellsGhost (Pipeline.pin (pcfgs (F := F)) adm) ER 3 d ∗ Pipeline.toksInit (Pipeline.pin (pcfgs (F := F)) adm) ER 3 d
        ∗ (iprop((K (F := F)).tcSt EH d n ∗ boundary (T d : Thread nD τ) ∗ held (T d : Thread nD τ) Sall (V3' Wk))
            -∗ wp frame (wpE ((K (F := F)).defs D) 𝒱 (T d) none) Set.univ (k ⟨⟩) Φ))
      ⊢ wp frame (wpE ((K (F := F)).defs D) 𝒱 (T d) none) Set.univ (Prog.lift (.customCall (SparseCore.inner (Pipeline.entry 3)) ()) >>= k) Φ := by
  unfold SparseCore.Cfg.tcSt
  iintro ⟨#Hctx, ⟨⟨%W, %hW, HO⟩, Hrest⟩, Hb, Hheld, Hcg, Htk, Hk⟩
  ihave #Hlev := (SparseCore.Cfg.ctx_levAts κ) $$ Hctx
  iapply (wp_region_held3 Wk ((K (F := F)).Otc d n) (Otc_none d n) (K (F := F)).lev (by sl_refines_lev) d W k Φ) $$ [HO Hrest Hb Hheld Hcg Htk Hk]
  isplitl [Hb]; · iexact Hb
  isplitl [Hheld]; · iexact Hheld
  isplitl [HO]; · iexact HO
  isplitr; · iexact Hlev
  isplitl [Hcg]; · iexact Hcg
  isplitl [Htk]; · iexact Htk
  iintro ⟨Hb, Hheld, %W', %hW', HO⟩
  iapply Hk
  isplitl [HO Hrest]
  · isplitl [HO]
    · iexists W'
      isplitr
      · ipureintro; exact wbelow_of_none hW hW'
      · iexact HO
    · iexact Hrest
  isplitl [Hb]; · iexact Hb
  iexact Hheld

/-! ## The reshapes of the bias vectors -/

/-- The reshape touches two of the TensorCore's arrays. -/
theorem rs10_sub : (Cert.KernelIdeal.HostPre.rsOp10 (F := F)).bufs ⊆ (Sall : Finset (DevRef τ sig)) := by
  rw [Cert.KernelIdeal.HostPre.rsOp10_bufs]
  intro b hb
  rw [Finset.mem_insert, Finset.mem_singleton] at hb
  rcases hb with rfl | rfl <;> exact mem_Sall rfl

/-- The reshape of `main_arg5` into `main_v10` as a step over the held arrays: the valuation moves to the operation's result. -/
theorem rs_step10 (d : Dev nD) (W : Valuation τ sig (Elt F)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall W
        ∗ (iprop(boundary (T d : Thread nD τ) ∗ held (T d : Thread nD τ) Sall ((Cert.KernelIdeal.HostPre.rsOp10 (F := F)).result W))
            -∗ wp frame (wpE ((K (F := F)).defs D) 𝒱 (T d) none) Set.univ (k ⟨⟩) Φ))
      ⊢ wp frame (wpE ((K (F := F)).defs D) 𝒱 (T d) none) Set.univ
          (hlo rfl (StableHlo.reshape main_arg5 main_v10 rfl shapeCasts_S128_S1x128) (fun _ => .ret ⟨⟩) >>= k) Φ := by
  rw [wp_bind]
  iintro ⟨Hb, Hheld, Hk⟩
  iapply (wp_hlo_within 𝒱 (SparseCore.T d) none Set.univ (op := Cert.KernelIdeal.HostPre.rsOp10 (F := F)) (S := Sall) rs10_sub (V := W)) $$ [Hb Hheld]
  · isplitl [Hb] <;> iassumption
  iintro ⟨Hb, Hheld⟩
  rw [wp_ret]; imodintro
  iapply Hk
  isplitl [Hb]; · iexact Hb
  iexact Hheld

/-- The reshape touches two of the TensorCore's arrays. -/
theorem rs13_sub : (Cert.KernelIdeal.HostPre.rsOp13 (F := F)).bufs ⊆ (Sall : Finset (DevRef τ sig)) := by
  rw [Cert.KernelIdeal.HostPre.rsOp13_bufs]
  intro b hb
  rw [Finset.mem_insert, Finset.mem_singleton] at hb
  rcases hb with rfl | rfl <;> exact mem_Sall rfl

/-- The reshape of `main_arg9` into `main_v13` as a step over the held arrays: the valuation moves to the operation's result. -/
theorem rs_step13 (d : Dev nD) (W : Valuation τ sig (Elt F)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall W
        ∗ (iprop(boundary (T d : Thread nD τ) ∗ held (T d : Thread nD τ) Sall ((Cert.KernelIdeal.HostPre.rsOp13 (F := F)).result W))
            -∗ wp frame (wpE ((K (F := F)).defs D) 𝒱 (T d) none) Set.univ (k ⟨⟩) Φ))
      ⊢ wp frame (wpE ((K (F := F)).defs D) 𝒱 (T d) none) Set.univ
          (hlo rfl (StableHlo.reshape main_arg9 main_v13 rfl shapeCasts_S128_S1x128) (fun _ => .ret ⟨⟩) >>= k) Φ := by
  rw [wp_bind]
  iintro ⟨Hb, Hheld, Hk⟩
  iapply (wp_hlo_within 𝒱 (SparseCore.T d) none Set.univ (op := Cert.KernelIdeal.HostPre.rsOp13 (F := F)) (S := Sall) rs13_sub (V := W)) $$ [Hb Hheld]
  · isplitl [Hb] <;> iassumption
  iintro ⟨Hb, Hheld⟩
  rw [wp_ret]; imodintro
  iapply Hk
  isplitl [Hb]; · iexact Hb
  iexact Hheld

/-- The reshape touches two of the TensorCore's arrays. -/
theorem rs16_sub : (Cert.KernelIdeal.HostPre.rsOp16 (F := F)).bufs ⊆ (Sall : Finset (DevRef τ sig)) := by
  rw [Cert.KernelIdeal.HostPre.rsOp16_bufs]
  intro b hb
  rw [Finset.mem_insert, Finset.mem_singleton] at hb
  rcases hb with rfl | rfl <;> exact mem_Sall rfl

/-- The reshape of `main_arg13` into `main_v16` as a step over the held arrays: the valuation moves to the operation's result. -/
theorem rs_step16 (d : Dev nD) (W : Valuation τ sig (Elt F)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall W
        ∗ (iprop(boundary (T d : Thread nD τ) ∗ held (T d : Thread nD τ) Sall ((Cert.KernelIdeal.HostPre.rsOp16 (F := F)).result W))
            -∗ wp frame (wpE ((K (F := F)).defs D) 𝒱 (T d) none) Set.univ (k ⟨⟩) Φ))
      ⊢ wp frame (wpE ((K (F := F)).defs D) 𝒱 (T d) none) Set.univ
          (hlo rfl (StableHlo.reshape main_arg13 main_v16 rfl shapeCasts_S128_S1x128) (fun _ => .ret ⟨⟩) >>= k) Φ := by
  rw [wp_bind]
  iintro ⟨Hb, Hheld, Hk⟩
  iapply (wp_hlo_within 𝒱 (SparseCore.T d) none Set.univ (op := Cert.KernelIdeal.HostPre.rsOp16 (F := F)) (S := Sall) rs16_sub (V := W)) $$ [Hb Hheld]
  · isplitl [Hb] <;> iassumption
  iintro ⟨Hb, Hheld⟩
  rw [wp_ret]; imodintro
  iapply Hk
  isplitl [Hb]; · iexact Hb
  iexact Hheld

end Cert.Proof.KI

end
-- ==== Proof.ScMain.lean ====
/-
  @main on the TensorCore: the host operations that lay out the index table, then three times a SparseCore call
  (its operands handed to the two SparseCores as read tokens and output rows, its results taken back) and the
  TensorCore regions that follow it, to the result array at the network's value and the arguments untouched.
-/

import proofs.«205366_g3083786518796_cont_9to1_852_38_alg».proof.Proof.ScSteps
import proofs.«205366_g3083786518796_cont_9to1_852_38_alg».proof.Proof.ScSteps12
import proofs.«205366_g3083786518796_cont_9to1_852_38_alg».proof.Proof.ScRegSteps

noncomputable section

namespace Cert.Proof.KI

open Cert.KernelIdeal Cert.KernelIdeal.Gen Cert.KernelIdeal.Regions

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq)

variable {F : FTy → Type} [FloatOps F]

local notation "𝕄" => MT nD τ sig (HIx 3) (Elt F) ℕ UU ℕ

variable (m : (ℓ : Loc nD τ sig) → Buf (Elt F) ℓ) (ρ : Dev nD → PrngReg)
variable (hok : ∀ d w, IdxOk w (IbOf m d))

/-! ## A TensorCore region, between calls -/

/-- Region 0 while the TensorCore is in the handshake state before call `n`: what it owes rides through the region (the
    region's own waits are recorded at no call's index), the arrays go from `Wk` to the region's update of it. -/
theorem region_step0 (κ : GSem nD τ sig → ℕ) (d : Dev nD) (n : ℕ) (Wk : Valuation τ sig (Elt F)) {α : Type}
    (k : PUnit → Prog (TpuEff nD τ sig (Elt F) (SparseCore.Sig (ΛP (F := F)) 3) .tc) α) (Φ : α → sProp 𝕄) (Tb Ib) :
    iprop((K (F := F)).ctx EH (P (F := F) Tb Ib) κ ∗ (K (F := F)).tcSt EH d n ∗ boundary (T d : Thread nD τ) ∗ held (T d : Thread nD τ) Sall Wk
        ∗ Pipeline.cellsGhost (Pipeline.pin (pcfgs (F := F)) adm) ER 0 d ∗ Pipeline.toksInit (Pipeline.pin (pcfgs (F := F)) adm) ER 0 d
        ∗ (iprop((K (F := F)).tcSt EH d n ∗ boundary (T d : Thread nD τ) ∗ held (T d : Thread nD τ) Sall (V0' Wk))
            -∗ wp frame (wpE ((K (F := F)).defs D) 𝒱 (T d) none) Set.univ (k ⟨⟩) Φ))
      ⊢ wp frame (wpE ((K (F := F)).defs D) 𝒱 (T d) none) Set.univ (Prog.lift (.customCall (SparseCore.inner (Pipeline.entry 0)) ()) >>= k) Φ := by
  unfold SparseCore.Cfg.tcSt
  iintro ⟨#Hctx, ⟨⟨%W, %hW, HO⟩, Hrest⟩, Hb, Hheld, Hcg, Htk, Hk⟩
  ihave #Hlev := (SparseCore.Cfg.ctx_levAts κ) $$ Hctx
  iapply (wp_region_held0 Wk ((K (F := F)).Otc d n) (Otc_none d n) (K (F := F)).lev (by sl_refines_lev) d W k Φ) $$ [HO Hrest Hb Hheld Hcg Htk Hk]
  isplitl [Hb]; · iexact Hb
  isplitl [Hheld]; · iexact Hheld
  isplitl [HO]; · iexact HO
  isplitr; · iexact Hlev
  isplitl [Hcg]; · iexact Hcg
  isplitl [Htk]; · iexact Htk
  iintro ⟨Hb, Hheld, %W', %hW', HO⟩
  iapply Hk
  isplitl [HO Hrest]
  · isplitl [HO]
    · iexists W'
      isplitr
      · ipureintro; exact wbelow_of_none hW hW'
      · iexact HO
    · iexact Hrest
  isplitl [Hb]; · iexact Hb
  iexact Hheld

/-! ## @main -/

include hok in
theorem hmain (κ : GSem nD τ sig → ℕ) (d : Dev nD) :
    iprop((K (F := F)).ctx EH (P (F := F) (TbOf m) (IbOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 3 ∗ FIN m (ResOf m) d) := by
  unfold SparseCore.Cfg.tcRes
  rw [unscoped_held, Cert.KernelIdeal.HostPre.main_eq]
  iintro ⟨#Hctx, Hst, ⟨Hb, Hheld, -, -⟩, HG⟩
  -- the eleven host operations that lay the index table out
  iapply (wp_seq (defs := (K (F := F)).defs (D (F := F))) (𝒱 := 𝒱) (bd := none) (E := Set.univ) d Sall (fun _ => Cert.KernelIdeal.HostPre.rest0 d)
      Cert.KernelIdeal.HostPre.preOps (fun op hop => (Cert.KernelIdeal.HostPre.pre_bufs op hop).trans Spre_sub)
      Cert.KernelIdeal.HostPre.pre_fresh (V0 m d)) $$ [Hb Hheld]
  · isplitl [Hb] <;> iassumption
  iintro ⟨Hb, Hheld⟩
  unfold Cert.KernelIdeal.HostPre.rest0
  -- what the launch element dealt @main: the tiles' barrier cells at round 0, the four pipelines' staging cells
  unfold G
  icases HG with ⟨Hbar, Hcg, Htk⟩
  ihave Hcg := (Entails.of_eq (bigSep_W1 (fun p => Pipeline.cellsGhost (nD := nD) (τ := τ) cfgs (ER (F := F)) p d))) $$ Hcg
  icases Hcg with ⟨Hcg0, Hcg1, Hcg2, Hcg3⟩
  ihave Htk := (Entails.of_eq (bigSep_W1 (fun p => (Pipeline.toksInit (nD := nD) (τ := τ) cfgs (ER (F := F)) p d : sProp 𝕄)))) $$ Htk
  icases Htk with ⟨Htk0, Htk1, Htk2, Htk3⟩
  -- layer 0: the neighbour sums of x, the first product, the activation and the next first product
  rw [wp_bind]
  iapply (call_step0 m hok κ d) $$ [Hst Hheld Hbar Hb Hcg0 Hcg1 Hcg2 Hcg3 Htk0 Htk1 Htk2 Htk3]
  isplitr; · iexact Hctx
  isplitl [Hst]; · iexact Hst
  isplitl [Hheld]; · iexact Hheld
  isplitl [Hbar]; · iexact Hbar
  iintro ⟨Hst, Hheld, Hbar⟩
  iapply (region_step0 κ d 1 (W2 m d) _ _ (TbOf m) (IbOf m)) $$ [Hst Hheld Hbar Hb Hcg0 Hcg1 Hcg2 Hcg3 Htk0 Htk1 Htk2 Htk3]
  isplitr; · iexact Hctx
  isplitl [Hst]; · iexact Hst
  isplitl [Hb]; · iexact Hb
  isplitl [Hheld]; · iexact Hheld
  isplitl [Hcg0]; · iexact Hcg0
  isplitl [Htk0]; · iexact Htk0
  iintro ⟨Hst, Hb, Hheld⟩
  iapply (rs_step10 d (W3 m d) _ _) $$ [Hst Hheld Hbar Hb Hcg1 Hcg2 Hcg3 Htk1 Htk2 Htk3]
  isplitl [Hb]; · iexact Hb
  isplitl [Hheld]; · iexact Hheld
  iintro ⟨Hb, Hheld⟩
  iapply (region_step1 κ d 1 (W4 m d) _ _ (TbOf m) (IbOf m)) $$ [Hst Hheld Hbar Hb Hcg1 Hcg2 Hcg3 Htk1 Htk2 Htk3]
  isplitr; · iexact Hctx
  isplitl [Hst]; · iexact Hst
  isplitl [Hb]; · iexact Hb
  isplitl [Hheld]; · iexact Hheld
  isplitl [Hcg1]; · iexact Hcg1
  isplitl [Htk1]; · iexact Htk1
  iintro ⟨Hst, Hb, Hheld⟩
  -- layer 1
  rw [wp_bind]
  iapply (call_step1 m hok κ d) $$ [Hst Hheld Hbar Hb Hcg2 Hcg3 Htk2 Htk3]
  isplitr; · iexact Hctx
  isplitl [Hst]; · iexact Hst
  isplitl [Hheld]; · iexact Hheld
  isplitl [Hbar]; · iexact Hbar
  iintro ⟨Hst, Hheld, Hbar⟩
  iapply (rs_step13 d (W6 m d) _ _) $$ [Hst Hheld Hbar Hb Hcg2 Hcg3 Htk2 Htk3]
  isplitl [Hb]; · iexact Hb
  isplitl [Hheld]; · iexact Hheld
  iintro ⟨Hb, Hheld⟩
  iapply (region_step2 κ d 2 (W7 m d) _ _ (TbOf m) (IbOf m)) $$ [Hst Hheld Hbar Hb Hcg2 Hcg3 Htk2 Htk3]
  isplitr; · iexact Hctx
  isplitl [Hst]; · iexact Hst
  isplitl [Hb]; · iexact Hb
  isplitl [Hheld]; · iexact Hheld
  isplitl [Hcg2]; · iexact Hcg2
  isplitl [Htk2]; · iexact Htk2
  iintro ⟨Hst, Hb, Hheld⟩
  -- layer 2
  rw [wp_bind]
  iapply (call_step2 m hok κ d) $$ [Hst Hheld Hbar Hb Hcg3 Htk3]
  isplitr; · iexact Hctx
  isplitl [Hst]; · iexact Hst
  isplitl [Hheld]; · iexact Hheld
  isplitl [Hbar]; · iexact Hbar
  iintro ⟨Hst, Hheld, Hbar⟩
  iapply (rs_step16 d (W9 m d) _ _) $$ [Hst Hheld Hb Hcg3 Htk3]
  isplitl [Hb]; · iexact Hb
  isplitl [Hheld]; · iexact Hheld
  iintro ⟨Hb, Hheld⟩
  iapply (region_step3 κ d 3 (W10 m d) _ _ (TbOf m) (IbOf m)) $$ [Hst Hheld Hb Hcg3 Htk3]
  isplitr; · iexact Hctx
  isplitl [Hst]; · iexact Hst
  isplitl [Hb]; · iexact Hb
  isplitl [Hheld]; · iexact Hheld
  isplitl [Hcg3]; · iexact Hcg3
  isplitl [Htk3]; · iexact Htk3
  iintro ⟨Hst, Hb, Hheld⟩
  -- the return: the result array at the program's value, the arguments at their launch contents
  rw [wp_pure]; imodintro
  isplitl [Hst]; · iexact Hst
  iapply (fin_of_held m d); iexact Hheld

end Cert.Proof.KI

end
-- ==== Proof.ScElem.lean ====
/-
  The launch element of the ghost state, and what the launch hands over.

  The element is a triple: the launch handshakes' cells, the subcore-barrier cells (one per tile, three rounds each,
  a unit duty per tile of the SparseCore in every round), and the TensorCore pipelines' staging cells.  It splits
  into the three; the barrier part funds every cell's round state, "round 0 reached", the owner's position at the
  origin, and every duty token; the semaphores at zero with the round states allocate the cells' invariants; the
  credit regroups so that each tile holds, for each call, the sixteen units of its own cell; the tokens regroup so
  that each tile holds, for each call, its token in every sibling's cell.  Each tile's three kits come out of
  those, the positions and "reached" go to the device's share, and the pipelines' part is the library's funding.
-/
import proofs.«205366_g3083786518796_cont_9to1_852_38_alg».proof.Proof.ScGhost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-! ## Its pieces -/

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element splits into its three parts. -/
theorem ownU_split (a : UH) (b : UB) (r : UR) :
    (ownU ((a, (b, (r, 1))) : UU) : sProp 𝕄) ⊢ iprop(BI.own (EH a) ∗ BI.own (EB b) ∗ BI.own (ER (F := F) r)) := by
  have h1 : (ownU ((a, (b, (r, 1))) : UU) : sProp 𝕄)
      ⊢ iprop(BI.own (EH a) ∗ BI.own ((uEmb (nD := nD) (sig := sig) (Ix := HIx 3) (Val := Elt F) (Name := ℕ) (U := UU) (Lvl := ℕ)).toEmb ((1, (b, (r, 1))) : UU))) :=
    BI.own_op_elim ((uEmb (nD := nD) (sig := sig) (Ix := HIx 3) (Val := Elt F) (Name := ℕ) (U := UU) (Lvl := ℕ)).toEmb.op_of_mem
      (Prod.mk_mem_op (URA.mem_op_one a) (URA.mem_one_op (b, ((r, 1) : UR × Counters)))))
  have h2 : (BI.own ((uEmb (nD := nD) (sig := sig) (Ix := HIx 3) (Val := Elt F) (Name := ℕ) (U := UU) (Lvl := ℕ)).toEmb ((1, (b, (r, 1))) : UU)) : sProp 𝕄)
      ⊢ iprop(BI.own (EB b) ∗ BI.own (ER (F := F) r)) :=
    BI.own_op_elim (((Emb.inr : Emb (UB × (UR × Counters)) UU).trans
        (uEmb (nD := nD) (sig := sig) (Ix := HIx 3) (Val := Elt F) (Name := ℕ) (U := UU) (Lvl := ℕ)).toEmb).op_of_mem
      (Prod.mk_mem_op (URA.mem_op_one b) (URA.mem_one_op ((r, 1) : UR × Counters))))
  exact h1.trans (sep_mono_r h2)

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) Tb) g 0)
    ⊢ |={Set.univ}=> iprop(∃ κ : GSem nD τ sig → ℕ, bigSep bCells fun g => cellInv EB (bRd (F := F) Tb) (κ g) g) := by
  refine (Rounds.bodies_intro EB (bRd (F := F) Tb) bCells).trans ((inv_alloc_family bCells (Rounds.body EB (bRd (F := F) Tb)) ∅ (E := Set.univ)).trans ?_)
  iintro H
  imod H with ⟨%κ, -, Hinv⟩
  imodintro; iexists κ; iexact Hinv

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

omit [FloatOps F] in
theorem sum_tallyAt_one (g : GSem nD τ sig) (ι : HIx 3) : ∀ n : ℕ, ∑ _ : Fin n, tallyAt g ι 1 = (tallyAt g ι n : CellTallies nD τ sig (HIx 3))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem bigSep_emp' {I : Type} (s : Finset I) : (bigSep s fun _ => iprop(emp)) = (iprop(emp) : sProp 𝕄) := bigSep_emp_const s

/-- What a tile owes over the three calls: for each call a unit on every tile's cell of its SparseCore. -/
theorem oxFrom_V (d : Dev nD) (c : Fin τ.nSC) (i : Fin τ.nSub) :
    (P (F := F) Tb Ib).oxFrom 0 (V d c i) = ∑ q : Fin 3, ∑ j : Fin τ.nSub, tallyAt (bcell d c j) (some q) 1 := by
  unfold SparseCore.Cfg.Pay.oxFrom
  simp only [Nat.zero_le, if_true]
  rfl

/-- The credit for the kernels' own debts, regrouped: each tile, for each call, the sixteen units of its own cell. -/
theorem creds_b : ((P (F := F) Tb Ib).oxCred : sProp 𝕄)
    ⊢ bigSep Finset.univ fun dci : DCI => bigSep Finset.univ fun q : Fin 3 => cred (tallyAt (bcell₃ dci) (some q) 16) := by
  unfold SparseCore.Cfg.Pay.oxCred
  rw [SparseCore.Cfg.bigSep_threads (fun thr : Thread nD τ => (cred ((P (F := F) Tb Ib).oxFrom 0 thr) : sProp 𝕄))]
  refine sep_elim_right.trans (sep_elim_right.trans ?_)
  rw [bigSep_univ_prod, bigSep_univ_prod (fun dci : DCI => bigSep Finset.univ fun q : Fin 3 => (cred (tallyAt (bcell₃ dci) (some q) 16) : sProp 𝕄))]
  refine bigSep_mono fun d _ => ?_
  rw [bigSep_univ_prod, bigSep_univ_prod (fun ci : Fin τ.nSC × Fin τ.nSub => bigSep Finset.univ fun q : Fin 3 => (cred (tallyAt (bcell₃ (d, ci)) (some q) 16) : sProp 𝕄))]
  refine bigSep_mono fun c _ => ?_
  dsimp only
  simp only [oxFrom_V, SparseCore.Cfg.cred_finsum]
  -- ⊛_i ⊛_q ⊛_j cred (unit on cell j, call q)  ⊢  ⊛_i ⊛_q cred (sixteen units on cell i, call q)
  rw [bigSep_univ_comm (fun (i : Fin τ.nSub) (q : Fin 3) => bigSep Finset.univ fun j : Fin τ.nSub => (cred (tallyAt (bcell d c j) (some q) 1) : sProp 𝕄)),
    bigSep_univ_comm (fun (i : Fin τ.nSub) (q : Fin 3) => (cred (tallyAt (bcell d c i) (some q) 16) : sProp 𝕄))]
  refine bigSep_mono fun q _ => ?_
  rw [bigSep_univ_comm (fun (i : Fin τ.nSub) (j : Fin τ.nSub) => (cred (tallyAt (bcell d c j) (some q) 1) : sProp 𝕄))]
  refine bigSep_mono fun j _ => ?_
  rw [← SparseCore.Cfg.cred_finsum, sum_tallyAt_one]; rfl

omit [FloatOps F] in
/-- The duty tokens, per cell, round and duty. -/
theorem toks_eq : (bigSep bToks fun x => (dutyTok EB x.1 x.2.1 x.2.2 : sProp 𝕄))
    = bigSep Finset.univ fun dci : DCI => bigSep Finset.univ fun q : Fin 3 => bigSep Finset.univ fun i : Fin τ.nSub =>
        dutyTok EB (bcell₃ dci) q.val i.val := by
  unfold bToks
  rw [SparseCore.bigSep_image_of_injOn, bigSep_univ_prod]
  · refine bigSep_congr fun dci _ => ?_
    rw [bigSep_univ_prod]
  · rintro ⟨a, q, i⟩ - ⟨a', q', i'⟩ - e
    have e1 : bcell₃ a = bcell₃ a' := (Prod.mk.inj e).1
    have e2 : q.val = q'.val := (Prod.mk.inj (Prod.mk.inj e).2).1
    have e3 : i.val = i'.val := (Prod.mk.inj (Prod.mk.inj e).2).2
    rw [bcell₃_injective e1, Fin.ext e2, Fin.ext e3]

omit [FloatOps F] in
/-- The tokens regrouped: each tile, for each call, its token in every sibling's cell. -/
theorem toks_regroup (d : Dev nD) (c : Fin τ.nSC) :
    (bigSep Finset.univ fun j : Fin τ.nSub => bigSep Finset.univ fun q : Fin 3 => bigSep Finset.univ fun i : Fin τ.nSub =>
        (dutyTok EB (bcell d c j) q.val i.val : sProp 𝕄))
      = bigSep Finset.univ fun i : Fin τ.nSub => bigSep Finset.univ fun q : Fin 3 => bigSep Finset.univ fun j : Fin τ.nSub =>
        dutyTok EB (bcell d c j) q.val i.val := by
  rw [bigSep_univ_comm (fun (j : Fin τ.nSub) (q : Fin 3) => bigSep Finset.univ fun i : Fin τ.nSub => (dutyTok EB (bcell d c j) q.val i.val : sProp 𝕄)),
    bigSep_univ_comm (fun (i : Fin τ.nSub) (q : Fin 3) => bigSep Finset.univ fun j : Fin τ.nSub => (dutyTok EB (bcell d c j) q.val i.val : sProp 𝕄))]
  refine bigSep_congr fun q _ => ?_
  rw [bigSep_univ_comm]

theorem Px_T (d : Dev nD) : (bigSep Finset.univ fun q : Fin 3 => (P (F := F) Tb Ib).x q (SparseCore.T d)) = iprop(emp) :=
  bigSep_emp' _
theorem Px_S (d : Dev nD) (c : Fin τ.nSC) : (bigSep Finset.univ fun q : Fin 3 => (P (F := F) Tb Ib).x q (S d c)) = iprop(emp) :=
  bigSep_emp' _
theorem Px_V (d : Dev nD) (c : Fin τ.nSC) (i : Fin τ.nSub) :
    (bigSep Finset.univ fun q : Fin 3 => (P (F := F) Tb Ib).x q (V d c i)) = bigSep Finset.univ fun q : Fin 3 => bkit (F := F) Tb q d c i := rfl

/-- What every tile is handed alike: every barrier cell's invariant. -/
abbrev shared : sProp 𝕄 :=
  iprop(∃ κ : GSem nD τ sig → ℕ, bigSep Finset.univ fun x : DCI => cellInv EB (bRd (F := F) Tb) (κ (bcell₃ x)) (bcell₃ x))
/-- What each tile is handed of its own, for each call: its token in every sibling's cell, and the credit of its cell. -/
abbrev mine (dci : DCI) : sProp 𝕄 :=
  iprop((bigSep Finset.univ fun q : Fin 3 => bigSep Finset.univ fun j : Fin τ.nSub => dutyTok EB (bcell dci.1 dci.2.1 j) q.val dci.2.2.val)
    ∗ (bigSep Finset.univ fun q : Fin 3 => cred (tallyAt (bcell₃ dci) (some q) 16)))

/-- One tile's three kits out of those. -/
theorem kit_intro (dci : DCI) :
    iprop(shared (F := F) Tb ∗ mine (F := F) dci) ⊢ (bigSep Finset.univ fun q : Fin 3 => bkit (F := F) Tb q dci.1 dci.2.1 dci.2.2 : sProp 𝕄) := by
  obtain ⟨d, c, i⟩ := dci
  unfold bkit
  rw [bigSep_sep', bigSep_sep']
  iintro ⟨#Hinv, Htok, Hcred⟩
  dsimp only
  isplitr
  · icases Hinv with ⟨%κ, Hinv⟩
    iapply (SparseCore.ent (bigSep_mono_frame (s := (Finset.univ : Finset (Fin 3))) (Φ := fun _ => iprop(emp))
      (R := bigSep Finset.univ fun x : DCI => cellInv EB (bRd (F := F) Tb) (κ (bcell₃ x)) (bcell₃ x)) fun q _ => (by
        iintro ⟨#HR, -⟩
        iexists κ
        iapply (SparseCore.ent (bigSep_mono_frame (s := (Finset.univ : Finset (Fin τ.nSub))) (Φ := fun _ => iprop(emp))
          (R := bigSep Finset.univ fun x : DCI => cellInv EB (bRd (F := F) Tb) (κ (bcell₃ x)) (bcell₃ x)) fun j _ =>
            sep_elim_left.trans (bigSep_elim (Φ := fun x : DCI => (cellInv EB (bRd (F := F) Tb) (κ (bcell₃ x)) (bcell₃ x) : sProp 𝕄))
              (i := (d, c, j)) (Finset.mem_univ _))))
        isplitl; · iexact HR
        rw [bigSep_emp']; iempintro)))
    isplitl; · iexact Hinv
    rw [bigSep_emp']; iempintro
  isplitl [Htok]; · iexact Htok
  iexact Hcred

/-- Each tile its kits. -/
theorem kits_deal :
    iprop(shared (F := F) Tb
        ∗ (bigSep Finset.univ fun dci : DCI => bigSep Finset.univ fun q : Fin 3 => bigSep Finset.univ fun j : Fin τ.nSub =>
            dutyTok EB (bcell dci.1 dci.2.1 j) q.val dci.2.2.val)
        ∗ (bigSep Finset.univ fun dci : DCI => bigSep Finset.univ fun q : Fin 3 => cred (tallyAt (bcell₃ dci) (some q) 16)))
      ⊢ (bigSep Finset.univ fun thr : Thread nD τ => bigSep Finset.univ fun q : Fin 3 => (P (F := F) Tb Ib).x q thr : sProp 𝕄) := by
  rw [SparseCore.Cfg.bigSep_threads (fun thr : Thread nD τ => bigSep Finset.univ fun q : Fin 3 => (P (F := F) Tb Ib).x q thr)]
  simp only [Px_T, Px_S, Px_V, bigSep_emp']
  iintro ⟨#Hsh, Htok, Hcred⟩
  isplitr; · iempintro
  isplitr; · iempintro
  iapply (bigSep_mono_frame (R := shared (F := F) Tb) (Φ := mine (F := F)) fun dci _ => kit_intro (F := F) Tb dci)
  isplitr; · iexact Hsh
  unfold mine
  rw [bigSep_sep']
  isplitl [Htok]; · iexact Htok
  iexact Hcred

omit [FloatOps F] in
/-- The tokens as the deal wants them: per tile, per call, per sibling cell. -/
theorem toks_deal : (bigSep bToks fun x => (dutyTok EB x.1 x.2.1 x.2.2 : sProp 𝕄))
    = bigSep Finset.univ fun dci : DCI => bigSep Finset.univ fun q : Fin 3 => bigSep Finset.univ fun j : Fin τ.nSub =>
        dutyTok EB (bcell dci.1 dci.2.1 j) q.val dci.2.2.val := by
  rw [toks_eq, bigSep_univ_prod,
    bigSep_univ_prod (fun dci : DCI => bigSep Finset.univ fun q : Fin 3 => bigSep Finset.univ fun j : Fin τ.nSub =>
        (dutyTok EB (bcell dci.1 dci.2.1 j) q.val dci.2.2.val : sProp 𝕄))]
  refine bigSep_congr fun d _ => ?_
  rw [bigSep_univ_prod, bigSep_univ_prod (fun ci : Fin τ.nSC × Fin τ.nSub => bigSep Finset.univ fun q : Fin 3 => bigSep Finset.univ fun j : Fin τ.nSub =>
        (dutyTok EB (bcell d ci.1 j) q.val ci.2.val : sProp 𝕄))]
  refine bigSep_congr fun c _ => ?_
  exact toks_regroup d c

omit [FloatOps F] in
/-- Every device's barrier cells at the origin of round 0. -/
theorem carry_deal :
    iprop((bigSep Finset.univ fun x : DCI => (atPos EB (bcell₃ x) 0 ∅ 0 : sProp 𝕄)) ∗ bigSep Finset.univ fun x : DCI => reached EB (bcell₃ x) 0)
      ⊢ bigSep Finset.univ fun d : Dev nD => bigSep Finset.univ fun ci : Fin τ.nSC × Fin τ.nSub => barCarry (F := F) 0 d ci.1 ci.2 := by
  unfold barCarry
  rw [← bigSep_sep', bigSep_univ_prod]

theorem hu₀ : iprop(ownU (u₀ (F := F)) ∗ (P (F := F) Tb Ib).oxCred ∗ (K (F := F)).freeSems0)
    ⊢ |={Set.univ}=> iprop(BI.own (EH (initOf (K (F := F)).hsCells (K (F := F)).hsToks)) ∗ (bigSep Finset.univ (G (F := F)))
        ∗ (bigSep Finset.univ fun thr : Thread nD τ => bigSep Finset.univ fun q : Fin 3 => (P (F := F) Tb Ib).x q thr) : sProp 𝕄) := by
  unfold u₀
  iintro ⟨Hu, Hcred, Hfree⟩
  ihave H := (ownU_split _ _ _) $$ Hu
  icases H with ⟨HH, HB, HR⟩
  imod (Rounds.fund EB (bRd (F := F) Tb) bCells bToks) $$ HB with ⟨Hst, #Hr, Hat, Htok⟩
  imod (Pipeline.fund_ghost (nD := nD) (τ := τ) cfgs (ER (F := F)) cellOf_inj) $$ HR with ⟨Hcg, Hti⟩
  ihave Hsems := (sems_b (F := F)) $$ Hfree
  imod (invs_b (F := F) Tb) $$ [Hsems Hst] with ⟨%κ, #Hinv⟩
  · isplitl [Hsems] <;> iassumption
  ihave Hcred' := (creds_b Tb Ib) $$ Hcred
  ihave Hinv' := (Entails.of_eq (bCells_eq (F := F) fun g => cellInv EB (bRd (F := F) Tb) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_deal (F := F))) $$ Htok
  imodintro
  isplitl [HH]; · iexact HH
  isplitl [Hat' Hcg Hti]
  · unfold G
    rw [bigSep_sep', bigSep_sep']
    isplitl [Hat']
    · iapply (carry_deal (F := F))
      isplitl [Hat']; · iexact Hat'
      iexact Hr'
    isplitl [Hcg]; · iexact Hcg
    iexact Hti
  iapply (kits_deal Tb Ib)
  isplitr
  · iexists κ; iexact Hinv'
  isplitl [Htok']; · iexact Htok'
  iexact Hcred'

end Cert.Proof.KI

end
-- ==== Proof.ScSplit.lean ====
/-
  How one SparseCore's operands of a call split among its sixteen tasks, and how the tasks' results gather.

  The read tokens of the table and of the index table are cut sixteen ways and rejoined with the kept remainder.  The
  SparseCore's shared buffer, held whole, is cut into the sixteen stage rectangles (rows 624·i … 624·i + 623, the last
  one 640 rows: they tile rows 0 … 9999); each task returns a read token of the WHOLE buffer and the kept remainder of
  its own rectangle, so the remainders rejoin over the rectangles into the whole buffer's remainder, and that with the
  sixteen tokens is the buffer whole again.  "Cell j has reached round q" is persistent: every task gets all sixteen.
-/
import proofs.«205366_g3083786518796_cont_9to1_852_38_alg».proof.Proof.ScPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 3) (Elt F) ℕ UU ℕ

/-! ## The stage rectangles tile the table's rows -/

theorem stage_disjoint : ∀ i ∈ (Finset.univ : Finset (Fin 16)), ∀ j ∈ (Finset.univ : Finset (Fin 16)), i ≠ j →
    Disjoint (stageRect i).set (stageRect j).set := fun i _ j _ h => by
  unfold stageRect
  refine Rect.unit_disjoint (0 : Fin 2) ?_
  show 624 * i.val + nStage i ≤ 624 * j.val ∨ 624 * j.val + nStage j ≤ 624 * i.val
  have hne : i.val ≠ j.val := fun e => h (Fin.ext e)
  unfold nStage
  split <;> split <;> omega

theorem stage_cover : (Finset.univ : Finset (Fin 16)).biUnion (fun i => (stageRect i).set) = Finset.univ := by
  ext x
  simp only [Finset.mem_biUnion, Finset.mem_univ, true_and, iff_true]
  have hr : (x 0).val < 10000 := (x 0).isLt
  have hc : (x 1).val < 128 := (x 1).isLt
  refine ⟨⟨min ((x 0).val / 624) 15, by omega⟩, Rect.mem_set_unit.mpr fun a => ?_⟩
  match a with
  | ⟨0, _⟩ =>
    show 624 * min ((x 0).val / 624) 15 ≤ (x 0).val ∧ (x 0).val < 624 * min ((x 0).val / 624) 15 + nStage ⟨min ((x 0).val / 624) 15, by omega⟩
    unfold nStage
    simp only
    split <;> omega
  | ⟨1, _⟩ =>
    show 0 ≤ (x 1).val ∧ (x 1).val < 0 + 128
    omega

/-! ## One call's split and join, over its locations -/

section Call

variable (ℓt ℓi ℓo : Loc nD τ sig) (ℓs : Fin τ.nSC → Loc nD τ sig)
variable (StS : (c : Fin τ.nSC) → Fin 16 → Finset (Idx (ℓs c))) (RowsO : Fin 32 → Finset (Idx ℓo))
variable (wrT : (S10000x128.Idx → F .f32) → Buf (Elt F) ℓt) (wrI : (S32x10496.Idx → BitVec 32) → Buf (Elt F) ℓi)
variable (rdO : Buf (Elt F) ℓo → S10240x128.Idx → F .f32) (wrS : (c : Fin τ.nSC) → (S10000x128.Idx → F .f32) → Buf (Elt F) (ℓs c))
variable (Tq : S10000x128.Idx → F .f32) (Iq : S32x10496.Idx → BitVec 32)

/-- The sixteen tasks' operands from their parts: each kind of part as one family, the pure fact and the sixteen
    "reached" (persistent) copied to every task. -/
theorem go_of_parts (q : ℕ) (d : Dev nD) (c : Fin 2) :
    iprop((⌜∀ w, IdxOk w Iq⌝ ∗ bigSep Finset.univ fun j : Fin 16 => reached EB (bcell d (c.castLE (by decide)) (j.castLE (by decide))) q)
        ∗ ((bigSep Finset.univ fun i : Fin 16 => (ℓt ↦{tileShare c i} wrT Tq : sProp 𝕄))
          ∗ (bigSep Finset.univ fun i : Fin 16 => (ℓi ↦{tileShare c i} wrI Iq : sProp 𝕄))
          ∗ (bigSep Finset.univ fun i : Fin 16 => (iprop(∃ fo, ℓo ↦[RowsO (wid c i)]{fullShare} fo) : sProp 𝕄))
          ∗ (bigSep Finset.univ fun i : Fin 16 => (iprop(∃ fs, ℓs (c.castLE (by decide)) ↦[StS (c.castLE (by decide)) i]{fullShare} fs) : sProp 𝕄))
          ∗ (bigSep Finset.univ fun i : Fin 16 => (atPos EB (bcell d (c.castLE (by decide)) (i.castLE (by decide))) q ∅ 0 : sProp 𝕄))))
      ⊢ bigSep Finset.univ fun i : Fin 16 => goPay ℓt ℓi ℓo ℓs StS RowsO wrT wrI Tq Iq q d c i := by
  rw [← bigSep_sep', ← bigSep_sep', ← bigSep_sep', ← bigSep_sep']
  refine bigSep_with_persistent (fun i _ => ?_)
  unfold goPay
  iintro ⟨⟨%hok, #Hre⟩, Ht, Hi, Ho, Hs, Ha⟩
  isplitl [Ht]; · iexact Ht
  isplitl [Hi]; · iexact Hi
  isplitr; · ipureintro; exact hok _
  isplitl [Ho]; · iexact Ho
  isplitl [Hs]; · iexact Hs
  isplitl [Ha]; · iexact Ha
  iexact Hre

/-- The sixteen tasks' results, each kind of part as one family. -/
theorem td_parts [FloatOps F] (q : ℕ) (d : Dev nD) (c : Fin 2) :
    (bigSep Finset.univ fun i : Fin 16 => tdPay ℓt ℓi ℓo ℓs StS RowsO wrT wrI rdO wrS Tq Iq q d c i)
      ⊢ iprop((bigSep Finset.univ fun i : Fin 16 => (ℓt ↦{tileShare c i} wrT Tq : sProp 𝕄))
          ∗ (bigSep Finset.univ fun i : Fin 16 => (ℓi ↦{tileShare c i} wrI Iq : sProp 𝕄))
          ∗ (bigSep Finset.univ fun i : Fin 16 => (iprop(∃ fo, (ℓo ↦[RowsO (wid c i)]{fullShare} fo) ∗ ⌜SumRel (wid c i) Tq Iq (rdO fo)⌝) : sProp 𝕄))
          ∗ (bigSep Finset.univ fun i : Fin 16 => (ℓs (c.castLE (by decide)) ↦{shareTok fullShare 16 i} wrS (c.castLE (by decide)) Tq : sProp 𝕄))
          ∗ (bigSep Finset.univ fun i : Fin 16 => (ℓs (c.castLE (by decide)) ↦[StS (c.castLE (by decide)) i]{shareDrop fullShare 16} wrS (c.castLE (by decide)) Tq : sProp 𝕄))
          ∗ (bigSep Finset.univ fun i : Fin 16 => barCarry (F := F) (q + 1) d (c.castLE (by decide)) (i.castLE (by decide)))) := by
  unfold tdPay
  rw [bigSep_sep', bigSep_sep', bigSep_sep', bigSep_sep', bigSep_sep']

/-- ONE CALL'S SPLIT: from a SparseCore's operands and its shared buffer whole, the sixteen tasks' operands; and from
    their results, the SparseCore's results and the shared buffer whole again. -/
theorem split_call [FloatOps F]
    (hdisj : ∀ c, ∀ i ∈ (Finset.univ : Finset (Fin 16)), ∀ j ∈ (Finset.univ : Finset (Fin 16)), i ≠ j → Disjoint (StS c i) (StS c j))
    (hcov : ∀ c, (Finset.univ : Finset (Fin 16)).biUnion (StS c) = Finset.univ)
    (q : ℕ) (d : Dev nD) (c : Fin 2) :
    iprop(stPay ℓt ℓi ℓo RowsO wrT wrI Tq Iq q d c ∗ (∃ fs, ℓs (c.castLE (by decide)) ↦{fullShare} fs))
      ⊢ |={Set.univ}=> iprop((bigSep Finset.univ fun i : Fin 16 => goPay ℓt ℓi ℓo ℓs StS RowsO wrT wrI Tq Iq q d c i)
        ∗ ((bigSep Finset.univ fun i : Fin 16 => tdPay ℓt ℓi ℓo ℓs StS RowsO wrT wrI rdO wrS Tq Iq q d c i)
            -∗ iprop(dnPay ℓt ℓi ℓo RowsO wrT wrI rdO Tq Iq q d c ∗ (∃ fs, ℓs (c.castLE (by decide)) ↦{fullShare} fs)))) := by
  have hc' : 2 ≤ τ.nSC := by decide
  unfold stPay dnPay
  iintro ⟨⟨Ht, Hi, %hok, Ho, Hbar⟩, ⟨%fs, Hs⟩⟩
  have hTs : (ℓt ↦{coreShare c} wrT Tq : sProp 𝕄)
      ⊢ iprop((ℓt ↦{shareDrop (coreShare c) 16} wrT Tq) ∗ bigSep Finset.univ fun i : Fin 16 => (ℓt ↦{tileShare c i} wrT Tq : sProp 𝕄)) :=
    Transfers.pointsTo_toks_split (coreShare c) 16
  have hIs : (ℓi ↦{coreShare c} wrI Iq : sProp 𝕄)
      ⊢ iprop((ℓi ↦{shareDrop (coreShare c) 16} wrI Iq) ∗ bigSep Finset.univ fun i : Fin 16 => (ℓi ↦{tileShare c i} wrI Iq : sProp 𝕄)) :=
    Transfers.pointsTo_toks_split (coreShare c) 16
  have hTj : iprop((ℓt ↦{shareDrop (coreShare c) 16} wrT Tq) ∗ bigSep Finset.univ fun i : Fin 16 => (ℓt ↦{tileShare c i} wrT Tq : sProp 𝕄))
      ⊢ (ℓt ↦{coreShare c} wrT Tq : sProp 𝕄) := Transfers.pointsTo_toks_join (coreShare c) 16
  have hIj : iprop((ℓi ↦{shareDrop (coreShare c) 16} wrI Iq) ∗ bigSep Finset.univ fun i : Fin 16 => (ℓi ↦{tileShare c i} wrI Iq : sProp 𝕄))
      ⊢ (ℓi ↦{coreShare c} wrI Iq : sProp 𝕄) := Transfers.pointsTo_toks_join (coreShare c) 16
  have hSj : iprop((ℓs (c.castLE hc') ↦{shareDrop fullShare 16} wrS (c.castLE hc') Tq)
        ∗ bigSep Finset.univ fun i : Fin 16 => (ℓs (c.castLE hc') ↦{shareTok fullShare 16 i} wrS (c.castLE hc') Tq : sProp 𝕄))
      ⊢ (ℓs (c.castLE hc') ↦{fullShare} wrS (c.castLE hc') Tq : sProp 𝕄) := Transfers.pointsTo_toks_join fullShare 16
  have hSrows : ∀ (qs : PosShare TreeShare) (g : Buf (Elt F) (ℓs (c.castLE hc'))),
      (ℓs (c.castLE hc') ↦{qs} g : sProp 𝕄)
        = bigSep Finset.univ fun i : Fin 16 => (ℓs (c.castLE hc') ↦[StS (c.castLE hc') i]{qs} g : sProp 𝕄) := fun qs g => by
    rw [← pointsTo_biUnion Finset.univ (ℓ := ℓs (c.castLE hc')) (StS (c.castLE hc')) (hdisj _), hcov]; try rfl
  have hBar : (bigSep Finset.univ fun i : Fin 16 => barCarry (F := F) q d (c.castLE hc') (i.castLE (by decide)))
      = iprop((bigSep Finset.univ fun i : Fin 16 => (atPos EB (bcell d (c.castLE hc') (i.castLE (by decide))) q ∅ 0 : sProp 𝕄))
          ∗ bigSep Finset.univ fun i : Fin 16 => (reached EB (bcell d (c.castLE hc') (i.castLE (by decide))) q : sProp 𝕄)) := by
    unfold barCarry; rw [bigSep_sep']
  have hSex : (ℓs (c.castLE hc') ↦{fullShare} fs : sProp 𝕄)
      ⊢ bigSep Finset.univ fun i : Fin 16 => (iprop(∃ fs, ℓs (c.castLE hc') ↦[StS (c.castLE hc') i]{fullShare} fs) : sProp 𝕄) := by
    rw [hSrows fullShare fs]
    exact bigSep_mono fun i _ => BI.BIClass.exists_intro (Φ := fun f => (ℓs (c.castLE hc') ↦[StS (c.castLE hc') i]{fullShare} f : sProp 𝕄)) fs
  have hSdj : (bigSep Finset.univ fun i : Fin 16 => (ℓs (c.castLE hc') ↦[StS (c.castLE hc') i]{shareDrop fullShare 16} wrS (c.castLE hc') Tq : sProp 𝕄))
      ⊢ (ℓs (c.castLE hc') ↦{shareDrop fullShare 16} wrS (c.castLE hc') Tq : sProp 𝕄) := Entails.of_eq (hSrows _ _).symm
  ihave Ht' := hTs $$ Ht
  icases Ht' with ⟨Htd, Htt⟩
  ihave Hi' := hIs $$ Hi
  icases Hi' with ⟨Hid, Hit⟩
  ihave Hs' := hSex $$ Hs
  ihave Hbar' := (Entails.of_eq hBar) $$ Hbar
  icases Hbar' with ⟨Hat, #Hre⟩
  imodintro
  isplitl [Htt Hit Ho Hs' Hat]
  · iapply (go_of_parts ℓt ℓi ℓo ℓs StS RowsO wrT wrI Tq Iq q d c)
    isplitr
    · isplitr; · ipureintro; exact hok
      iexact Hre
    isplitl [Htt]; · iexact Htt
    isplitl [Hit]; · iexact Hit
    isplitl [Ho]; · iexact Ho
    isplitl [Hs']; · iexact Hs'
    iexact Hat
  iintro Htd_all
  ihave H := (td_parts ℓt ℓi ℓo ℓs StS RowsO wrT wrI rdO wrS Tq Iq q d c) $$ Htd_all
  icases H with ⟨Ht2, Hi2, Ho2, Hsk, Hsd, Hb2⟩
  isplitl [Htd Ht2 Hid Hi2 Ho2 Hb2]
  · isplitl [Htd Ht2]
    · iapply hTj
      isplitl [Htd]; · iexact Htd
      iexact Ht2
    isplitl [Hid Hi2]
    · iapply hIj
      isplitl [Hid]; · iexact Hid
      iexact Hi2
    isplitl [Ho2]; · iexact Ho2
    iexact Hb2
  iexists (wrS (c.castLE hc') Tq)
  iapply hSj
  isplitl [Hsd]
  · iapply hSdj
    iexact Hsd
  iexact Hsk

end Call

/-! ## The three calls -/

/-- A SparseCore's shared buffer is among its sequencer's own buffers: it, at some contents, and the rest. -/
theorem ownBufs_sh (d : Dev nD) (c : Fin τ.nSC) (b : DevRef τ sig) (hb : b.owner.home = .scScalar c) :
    (ownBufs (S d c) : sProp 𝕄)
      = iprop((∃ f, ((d, b) : Loc nD τ sig) ↦{fullShare} f)
          ∗ bigSep ((ownRefs (τ := τ) (.scScalar c)).erase b) fun b => iprop(∃ f, ((d, b) : Loc nD τ sig) ↦{fullShare} f)) := by
  unfold SparseCore.Cfg.ownBufs
  have h : b ∈ ownRefs (τ := τ) (sig := sig) (.scScalar c) := (mem_ownRefs (p := Proc.scScalar c) (b := b)).mpr hb
  exact SparseCore.bigSep_erase' h

/-- A family over a call's tasks is the family over the sixteen tiles. -/
theorem bigSep_tasks (q : Fin 3) (Φ : Fin 16 → sProp 𝕄) :
    (bigSep Finset.univ fun i : Fin ((K (F := F)).nSub q) => Φ (Fin.cast (nSub_eq (F := F) q) i)) = bigSep Finset.univ Φ := by
  match q with
  | 0 => exact bigSep_congr fun _ _ => congrArg Φ (Fin.ext rfl)
  | 1 => exact bigSep_congr fun _ _ => congrArg Φ (Fin.ext rfl)
  | 2 => exact bigSep_congr fun _ _ => congrArg Φ (Fin.ext rfl)

variable (Tb : Fin 3 → Dev nD → S10000x128.Idx → F .f32) (Ib : Dev nD → S32x10496.Idx → BitVec 32)
variable [FloatOps F]

set_option maxHeartbeats 1000000 in
theorem vecSplit0 : (K (F := F)).VecSplit (P (F := F) Tb Ib) 0 := by
  intro d c
  have hc' : 2 ≤ τ.nSC := by decide
  have hcore : (K (F := F)).core 0 c = (Fin.cast (nCore_eq (F := F) 0) c).castLE hc' := Fin.ext rfl
  show iprop(stPay (tab0 d) (idxLoc d) (out0 d) (fun w => (outRect w).set) (wrT0 d) (wrI d) (Tb 0 d) (Ib d) 0 d (Fin.cast (nCore_eq (F := F) 0) c)
        ∗ ownBufs (S d ((K (F := F)).core 0 c)))
      ⊢ |={Set.univ}=> iprop(
        (bigSep Finset.univ fun i : Fin ((K (F := F)).nSub 0) =>
          goPay (tab0 d) (idxLoc d) (out0 d) (sh0 d) (fun _ n => (stageRect n).set) (fun w => (outRect w).set) (wrT0 d) (wrI d) (Tb 0 d) (Ib d) 0 d
            (Fin.cast (nCore_eq (F := F) 0) c) (Fin.cast (nSub_eq (F := F) 0) i))
        ∗ ((bigSep Finset.univ fun i : Fin ((K (F := F)).nSub 0) =>
            tdPay (tab0 d) (idxLoc d) (out0 d) (sh0 d) (fun _ n => (stageRect n).set) (fun w => (outRect w).set) (wrT0 d) (wrI d) (rdO0 d) (wrS0 d) (Tb 0 d) (Ib d) 0 d
              (Fin.cast (nCore_eq (F := F) 0) c) (Fin.cast (nSub_eq (F := F) 0) i))
          -∗ iprop(dnPay (tab0 d) (idxLoc d) (out0 d) (fun w => (outRect w).set) (wrT0 d) (wrI d) (rdO0 d) (Tb 0 d) (Ib d) 0 d (Fin.cast (nCore_eq (F := F) 0) c)
              ∗ ownBufs (S d ((K (F := F)).core 0 c)))))
  rw [bigSep_tasks (F := F) 0 (fun i => goPay (tab0 d) (idxLoc d) (out0 d) (sh0 d) (fun _ n => (stageRect n).set) (fun w => (outRect w).set) (wrT0 d) (wrI d) (Tb 0 d) (Ib d) 0 d
        (Fin.cast (nCore_eq (F := F) 0) c) i),
    bigSep_tasks (F := F) 0 (fun i => tdPay (tab0 d) (idxLoc d) (out0 d) (sh0 d) (fun _ n => (stageRect n).set) (fun w => (outRect w).set) (wrT0 d) (wrI d) (rdO0 d) (wrS0 d) (Tb 0 d) (Ib d) 0 d
        (Fin.cast (nCore_eq (F := F) 0) c) i),
    hcore, ownBufs_sh (F := F) d _ (shRef0 ((Fin.cast (nCore_eq (F := F) 0) c).castLE hc')) rfl]
  iintro ⟨Hst, Hsh, Hrest⟩
  imod (split_call (tab0 d) (idxLoc d) (out0 d) (sh0 d) (fun _ n => (stageRect n).set) (fun w => (outRect w).set) (wrT0 d) (wrI d) (rdO0 d) (wrS0 d) (Tb 0 d) (Ib d)
      (fun _ => stage_disjoint) (fun _ => stage_cover) 0 d (Fin.cast (nCore_eq (F := F) 0) c)) $$ [Hst Hsh] with H
  · isplitl [Hst]; · iexact Hst
    iexact Hsh
  icases H with ⟨Hgo, Hj⟩
  imodintro
  isplitl [Hgo]; · iexact Hgo
  iintro Htd
  ihave H := Hj $$ Htd
  icases H with ⟨Hdn, Hsh⟩
  isplitl [Hdn]; · iexact Hdn
  isplitl [Hsh]; · iexact Hsh
  iexact Hrest

set_option maxHeartbeats 1000000 in
theorem vecSplit1 : (K (F := F)).VecSplit (P (F := F) Tb Ib) 1 := by
  intro d c
  have hc' : 2 ≤ τ.nSC := by decide
  have hcore : (K (F := F)).core 1 c = (Fin.cast (nCore_eq (F := F) 1) c).castLE hc' := Fin.ext rfl
  show iprop(stPay (tab1 d) (idxLoc d) (out1 d) (fun w => (outRect w).set) (wrT1 d) (wrI d) (Tb 1 d) (Ib d) 1 d (Fin.cast (nCore_eq (F := F) 1) c)
        ∗ ownBufs (S d ((K (F := F)).core 1 c)))
      ⊢ |={Set.univ}=> iprop(
        (bigSep Finset.univ fun i : Fin ((K (F := F)).nSub 1) =>
          goPay (tab1 d) (idxLoc d) (out1 d) (sh1 d) (fun _ n => (stageRect n).set) (fun w => (outRect w).set) (wrT1 d) (wrI d) (Tb 1 d) (Ib d) 1 d
            (Fin.cast (nCore_eq (F := F) 1) c) (Fin.cast (nSub_eq (F := F) 1) i))
        ∗ ((bigSep Finset.univ fun i : Fin ((K (F := F)).nSub 1) =>
            tdPay (tab1 d) (idxLoc d) (out1 d) (sh1 d) (fun _ n => (stageRect n).set) (fun w => (outRect w).set) (wrT1 d) (wrI d) (rdO1 d) (wrS1 d) (Tb 1 d) (Ib d) 1 d
              (Fin.cast (nCore_eq (F := F) 1) c) (Fin.cast (nSub_eq (F := F) 1) i))
          -∗ iprop(dnPay (tab1 d) (idxLoc d) (out1 d) (fun w => (outRect w).set) (wrT1 d) (wrI d) (rdO1 d) (Tb 1 d) (Ib d) 1 d (Fin.cast (nCore_eq (F := F) 1) c)
              ∗ ownBufs (S d ((K (F := F)).core 1 c)))))
  rw [bigSep_tasks (F := F) 1 (fun i => goPay (tab1 d) (idxLoc d) (out1 d) (sh1 d) (fun _ n => (stageRect n).set) (fun w => (outRect w).set) (wrT1 d) (wrI d) (Tb 1 d) (Ib d) 1 d
        (Fin.cast (nCore_eq (F := F) 1) c) i),
    bigSep_tasks (F := F) 1 (fun i => tdPay (tab1 d) (idxLoc d) (out1 d) (sh1 d) (fun _ n => (stageRect n).set) (fun w => (outRect w).set) (wrT1 d) (wrI d) (rdO1 d) (wrS1 d) (Tb 1 d) (Ib d) 1 d
        (Fin.cast (nCore_eq (F := F) 1) c) i),
    hcore, ownBufs_sh (F := F) d _ (shRef1 ((Fin.cast (nCore_eq (F := F) 1) c).castLE hc')) rfl]
  iintro ⟨Hst, Hsh, Hrest⟩
  imod (split_call (tab1 d) (idxLoc d) (out1 d) (sh1 d) (fun _ n => (stageRect n).set) (fun w => (outRect w).set) (wrT1 d) (wrI d) (rdO1 d) (wrS1 d) (Tb 1 d) (Ib d)
      (fun _ => stage_disjoint) (fun _ => stage_cover) 1 d (Fin.cast (nCore_eq (F := F) 1) c)) $$ [Hst Hsh] with H
  · isplitl [Hst]; · iexact Hst
    iexact Hsh
  icases H with ⟨Hgo, Hj⟩
  imodintro
  isplitl [Hgo]; · iexact Hgo
  iintro Htd
  ihave H := Hj $$ Htd
  icases H with ⟨Hdn, Hsh⟩
  isplitl [Hdn]; · iexact Hdn
  isplitl [Hsh]; · iexact Hsh
  iexact Hrest

set_option maxHeartbeats 1000000 in
theorem vecSplit2 : (K (F := F)).VecSplit (P (F := F) Tb Ib) 2 := by
  intro d c
  have hc' : 2 ≤ τ.nSC := by decide
  have hcore : (K (F := F)).core 2 c = (Fin.cast (nCore_eq (F := F) 2) c).castLE hc' := Fin.ext rfl
  show iprop(stPay (tab2 d) (idxLoc d) (out2 d) (fun w => (outRect w).set) (wrT2 d) (wrI d) (Tb 2 d) (Ib d) 2 d (Fin.cast (nCore_eq (F := F) 2) c)
        ∗ ownBufs (S d ((K (F := F)).core 2 c)))
      ⊢ |={Set.univ}=> iprop(
        (bigSep Finset.univ fun i : Fin ((K (F := F)).nSub 2) =>
          goPay (tab2 d) (idxLoc d) (out2 d) (sh2 d) (fun _ n => (stageRect n).set) (fun w => (outRect w).set) (wrT2 d) (wrI d) (Tb 2 d) (Ib d) 2 d
            (Fin.cast (nCore_eq (F := F) 2) c) (Fin.cast (nSub_eq (F := F) 2) i))
        ∗ ((bigSep Finset.univ fun i : Fin ((K (F := F)).nSub 2) =>
            tdPay (tab2 d) (idxLoc d) (out2 d) (sh2 d) (fun _ n => (stageRect n).set) (fun w => (outRect w).set) (wrT2 d) (wrI d) (rdO2 d) (wrS2 d) (Tb 2 d) (Ib d) 2 d
              (Fin.cast (nCore_eq (F := F) 2) c) (Fin.cast (nSub_eq (F := F) 2) i))
          -∗ iprop(dnPay (tab2 d) (idxLoc d) (out2 d) (fun w => (outRect w).set) (wrT2 d) (wrI d) (rdO2 d) (Tb 2 d) (Ib d) 2 d (Fin.cast (nCore_eq (F := F) 2) c)
              ∗ ownBufs (S d ((K (F := F)).core 2 c)))))
  rw [bigSep_tasks (F := F) 2 (fun i => goPay (tab2 d) (idxLoc d) (out2 d) (sh2 d) (fun _ n => (stageRect n).set) (fun w => (outRect w).set) (wrT2 d) (wrI d) (Tb 2 d) (Ib d) 2 d
        (Fin.cast (nCore_eq (F := F) 2) c) i),
    bigSep_tasks (F := F) 2 (fun i => tdPay (tab2 d) (idxLoc d) (out2 d) (sh2 d) (fun _ n => (stageRect n).set) (fun w => (outRect w).set) (wrT2 d) (wrI d) (rdO2 d) (wrS2 d) (Tb 2 d) (Ib d) 2 d
        (Fin.cast (nCore_eq (F := F) 2) c) i),
    hcore, ownBufs_sh (F := F) d _ (shRef2 ((Fin.cast (nCore_eq (F := F) 2) c).castLE hc')) rfl]
  iintro ⟨Hst, Hsh, Hrest⟩
  imod (split_call (tab2 d) (idxLoc d) (out2 d) (sh2 d) (fun _ n => (stageRect n).set) (fun w => (outRect w).set) (wrT2 d) (wrI d) (rdO2 d) (wrS2 d) (Tb 2 d) (Ib d)
      (fun _ => stage_disjoint) (fun _ => stage_cover) 2 d (Fin.cast (nCore_eq (F := F) 2) c)) $$ [Hst Hsh] with H
  · isplitl [Hst]; · iexact Hst
    iexact Hsh
  icases H with ⟨Hgo, Hj⟩
  imodintro
  isplitl [Hgo]; · iexact Hgo
  iintro Htd
  ihave H := Hj $$ Htd
  icases H with ⟨Hdn, Hsh⟩
  isplitl [Hdn]; · iexact Hdn
  isplitl [Hsh]; · iexact Hsh
  iexact Hrest

/-- How a SparseCore's operands of call `q` split among its sixteen tasks, and their results gather. -/
theorem vecSplit (q : Fin 3) : (K (F := F)).VecSplit (P (F := F) Tb Ib) q :=
  match q with
  | 0 => vecSplit0 Tb Ib
  | 1 => vecSplit1 Tb Ib
  | 2 => vecSplit2 Tb Ib

end Cert.Proof.KI

end
-- ==== Proof.BodyDefs.lean ====
/-
  The SparseCore gather-sum kernel, as one vector subcore runs it: what the subcore is handed and what it hands back.

  Worker `wid = 2 s + c` (subcore `s` of SparseCore `c`) copies row `wid` of the index table into its index scratch, copies
  its stripe of the table (rows `624 s … 624 s + n`, `n = 640` for `s = 15` and `624` otherwise) into the SparseCore's shared
  memory, meets the sixteen subcores of its SparseCore at the subcore barrier, and then, forty times for each of two slots,
  gathers 128 rows of the shared table named by the next 128 indices, sums them 32 at a time along a balanced tree and
  copies the four sums out to rows `320 wid + 4 (2 t + b) …` of the result.

  The barrier carries the table: subcore `n`'s duty in subcore `j`'s round hands over the `j`-th read share of stripe `n` of the
  shared memory, holding the table's rows; leaving the barrier a subcore holds one read share of every stripe, that is, of
  the whole shared table, at the table's contents.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's configuration -/

abbrev ΛP : Labels := Pipeline.Sig Λ₀ (Fin 4) fun p => (pcfgs (F := F) p).Adm
abbrev K : SparseCore.Cfg τ sig (ΛP (F := F)) 3 := sc (F := F)
abbrev 𝒱₀ : Variants := Variants.none

theorem nSub_eq : τ.nSub = 16 := rfl
theorem bound_one : grid0.bound 1 = 16 := rfl

/-! ## The resource algebra: any, with the barrier cells' rounds library embedded and the transfers' counters inside -/

abbrev UB : Type := URounds (GSem nD τ sig) ℕ

variable {U : Type} [URA U]

local notation "𝕄" => MT nD τ sig (HIx 3) (Elt F) ℕ U ℕ

/-! ## The arrays -/

abbrev xLoc (d : Dev nD) : Loc nD τ sig := (SparseCore.T d).loc main_arg0
abbrev iLoc (d : Dev nD) : Loc nD τ sig := (SparseCore.T d).loc main_v7
abbrev oLoc (d : Dev nD) : Loc nD τ sig := (SparseCore.T d).loc main_v8
/-- SparseCore `c`'s shared table, as every subcore of it addresses it. -/
abbrev shRef (c : Fin τ.nSC) : DevRef τ sig := ⟨.shared, ⟨0, by decide⟩, c⟩
abbrev shLoc (d : Dev nD) (c : Fin τ.nSC) : Loc nD τ sig := (d, shRef c)

local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

/-! ## A subcore's place -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
abbrev jL (L : grid0.Coords) : Fin 16 := Fin.cast bound_one (L 1)
/-- The worker's number: `2 s + c`. -/
def wid (L : grid0.Coords) : ℕ := 2 * (L 1).val + (L 0).val

/-! ## The pieces, spelt as the program slices them -/

/-- Row `wid` of the index table. -/
abbrev iRowK (L : grid0.Coords) : Memref sig .scVector .hbm S10496 .i32 :=
  ((iV).slice (Rect.unit (s := S32x10496) (k0_off1 L) S1x10496.size (k0_off1_inb L)) (fun _ => rfl)).squeeze S10496 squeezes_S1x10496_S10496
/-- The subcore's stripe of the table, and of the shared table. -/
abbrev xStripeK (L : grid0.Coords) : Memref sig .scVector .hbm ⟨2, (k0_off2 L).2⟩ .f32 :=
  (xV).slice (Rect.unit (s := S10000x128) (k0_off2 L).1 (k0_off2 L).2 (k0_off2_inb L)) (fun _ => rfl)
abbrev shStripeK (L : grid0.Coords) : Memref sig .scVector .shared ⟨2, (k0_off2 L).2⟩ .f32 :=
  (shV).slice (Rect.unit (s := S10000x128) (k0_off2 L).1 (k0_off2 L).2 (k0_off2_inb L)) (fun _ => rfl)
/-- The shared table whole, as the gathers address it. -/
abbrev shAllK : Memref sig .scVector .shared S10000x128 .f32 :=
  (shV).slice (Rect.unit (s := S10000x128) ![0, 0] S10000x128.size inb_S10000x128_S10000x128_0_0) (fun _ => rfl)
/-- The four result rows of trip `t`, slot `b`: rows `320 wid + 4 (2 t + b) …`. -/
abbrev oChunkK (L : grid0.Coords) (t : Fin k0_t1_loop.trips) (b : Fin 2) : Memref sig .scVector .hbm S4x128 .f32 :=
  (oV).slice (Rect.unit (s := S10240x128) (k0_off20 L t (BitVec.ofNat 32 b.val)) S4x128.size (k0_off20_inb L t b)) (fun _ => rfl)

/-- Stripe `n` of the table (the same on either SparseCore): rows `624 n …`, 640 of them for `n = 15` and 624 otherwise. -/
abbrev stripeRect (L : grid0.Coords) : Rect S10000x128 := Rect.unit (s := S10000x128) (k0_off2 L).1 (k0_off2 L).2 (k0_off2_inb L)
def core0 : Fin (grid0.bound 0) := ⟨0, by decide⟩
def stripe (n : Fin 16) : Finset S10000x128.Idx := ((xV).view.slice (stripeRect (coordsV core0 (Fin.cast bound_one.symm n)))).set
/-- The elements of row `wid` of the index table. -/
abbrev iRowSet (L : grid0.Coords) : Finset S32x10496.Idx := (iRowK L).view.set
/-- The elements of a result chunk. -/
abbrev oChunkSet (L : grid0.Coords) (t : Fin k0_t1_loop.trips) (b : Fin 2) : Finset S10240x128.Idx := (oChunkK L t b).view.set

theorem set_shStripeK (L : grid0.Coords) : (shStripeK L).view.set = stripe (jL L) := rfl
theorem set_xStripeK (L : grid0.Coords) : (xStripeK L).view.set = stripe (jL L) := rfl

/-! ## The barrier cells: the rounds' schedule, carrying the table -/

/-- Subcore `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The read share of the shared table that goes to subcore `j`. -/
abbrev shTok (j : Fin τ.nSub) : PosShare TreeShare := Transfers.shareTok fullShare τ.nSub j
/-- What a stripe's owner keeps of it. -/
abbrev shKeep : PosShare TreeShare := Transfers.shareDrop fullShare τ.nSub

/-- What the duty named `n` in subcore `j`'s round `r` hands over: subcore `j`'s read share of stripe `n` of the shared
    table, holding the table of that round (call `r` of the kernel). -/
def bPay (Tb : ℕ → Dev nD → S10000x128.Idx → Elt F .f32) (g : GSem nD τ sig) (r n : ℕ) : sProp 𝕄 :=
  match g with
  | ((d, .scVector c j), _) => if h : n < 16 then iprop(shLoc d c ↦[stripe ⟨n, h⟩]{shTok j} Tb r d) else iprop(emp)
  | _ => iprop(emp)

/-- The barrier cells' schedule: round `r < 3` (one per call of the kernel) on each, of one unit duty per subcore of the
    SparseCore (named by its number). -/
def bRd (Tb : ℕ → Dev nD → S10000x128.Idx → Elt F .f32) : Rounds.Schedule (GSem nD τ sig) ℕ 𝕄 where
  duties g r := if isBar g ∧ r < 3 then (Finset.univ : Finset (Fin τ.nSub)).image Fin.val else ∅
  amount _ _ _ := 1
  payload g r n := bPay Tb g r n
  amount_pos _ _ _ _ := Nat.one_pos

instance bRd_payload_storable (Tb : ℕ → Dev nD → S10000x128.Idx → Elt F .f32) (g : GSem nD τ sig) (r n : ℕ) :
    BI.Storable (upEmb : UEmb _ 𝕄) ((bRd (U := U) Tb).payload g r n) := by
  show BI.Storable upEmb (bPay Tb g r n)
  unfold bPay
  rcases g with ⟨⟨d, _ | c | ⟨c, i⟩⟩, sm⟩ <;> dsimp only <;> (repeat' split) <;> infer_instance

theorem bRd_duties (Tb : ℕ → Dev nD → S10000x128.Idx → Elt F .f32) (d : Dev nD) (c : Fin τ.nSC) (j : Fin τ.nSub) {r : ℕ} (hr : r < 3) :
    (bRd (U := U) Tb).duties (bcell d c j) r = (Finset.univ : Finset (Fin τ.nSub)).image Fin.val := by
  simp [bRd, isBar, hr]
theorem bRd_mem (Tb : ℕ → Dev nD → S10000x128.Idx → Elt F .f32) (d : Dev nD) (c : Fin τ.nSC) (j i : Fin τ.nSub) {r : ℕ} (hr : r < 3) :
    i.val ∈ (bRd (U := U) Tb).duties (bcell d c j) r := by
  rw [bRd_duties Tb d c j hr]; exact Finset.mem_image_of_mem _ (Finset.mem_univ i)
theorem bRd_expect (Tb : ℕ → Dev nD → S10000x128.Idx → Elt F .f32) (d : Dev nD) (c : Fin τ.nSC) (j : Fin τ.nSub) {r : ℕ} (hr : r < 3) :
    0 + grid0.bound 1 = (bRd (U := U) Tb).expect (bcell d c j) r := by
  unfold Rounds.Schedule.expect; rw [bRd_duties Tb d c j hr]
  show 0 + 16 = ∑ x ∈ (Finset.univ : Finset (Fin 16)).image Fin.val, 1
  rw [Finset.sum_const, Finset.card_image_of_injective _ Fin.val_injective]; rfl

/-- What the launch has a subcore owe for the barrier of call `q`: a unit on every subcore's cell of its SparseCore. -/
def oxV (d : Dev nD) (c : Fin τ.nSC) (q : Fin 3) : CellTallies nD τ sig (HIx 3) :=
  ∑ j : Fin (grid0.bound 1), tallyAt (bcell d c (j.castLE hsub0)) (some q) 1

theorem oxV_none (d : Dev nD) (c : Fin τ.nSC) (q : Fin 3) (g : GSem nD τ sig) : oxV d c q g none = 0 := by
  unfold oxV
  rw [Finset.sum_apply, Finsupp.finsetSum_apply]
  exact Finset.sum_eq_zero fun j _ => by rw [tallyAt_apply, if_neg (fun e => nomatch e.2)]

/-- Subcore `(c, i)`'s barrier kit for round `r` (call `q`): every subcore's cell invariant of its SparseCore and that each has
    reached round `r`, its own position at the origin of round `r`, its duty token in every subcore's round `r`, and the
    credit for the sixteen units of its own round. -/
def bkit (EB : Emb (URounds (GSem nD τ sig) ℕ) (MT nD τ sig (HIx 3) (Elt F) ℕ U ℕ)) (Tb : ℕ → Dev nD → S10000x128.Idx → Elt F .f32) (r : ℕ) (q : Fin 3) (d : Dev nD) (c : Fin τ.nSC) (i : Fin τ.nSub) : sProp 𝕄 :=
  iprop((∃ κ : GSem nD τ sig → ℕ, bigSep Finset.univ fun j : Fin (grid0.bound 1) =>
      cellInv EB (bRd (U := U) Tb) (κ (bcell d c (j.castLE hsub0))) (bcell d c (j.castLE hsub0)))
    ∗ (bigSep Finset.univ fun j : Fin (grid0.bound 1) => dutyTok EB (bcell d c (j.castLE hsub0)) r i.val)
    ∗ (bigSep Finset.univ fun j : Fin (grid0.bound 1) => reached (D := ℕ) EB (bcell d c (j.castLE hsub0)) r)
    ∗ atPos EB (bcell d c i) r (∅ : Finset ℕ) 0
    ∗ cred (tallyAt (bcell d c i) (some q) (grid0.bound 1)))

/-! ## What a subcore is handed, and what it hands back -/

section Tile

variable (d : Dev nD) (L : grid0.Coords)

/-- Handed to subcore `L`: a read share `qx` of the table (contents `Tx`), a share `qi` of row `wid` of the index table
    (contents `Ix`), its eighty result chunks outright (contents `fo`), and its stripe of the shared table outright. -/
def goT (qx qi : PosShare TreeShare) (Tx : S10000x128.Idx → Elt F .f32) (Ix : S32x10496.Idx → Elt F .i32) (fo : S10240x128.Idx → Elt F .f32) : sProp 𝕄 :=
  iprop((xLoc d ↦{qx} Tx) ∗ (iLoc d ↦[iRowSet L]{qi} Ix)
    ∗ (bigSep Finset.univ fun tb : Fin k0_t1_loop.trips × Fin 2 => oLoc d ↦[oChunkSet L tb.1 tb.2]{fullShare} fo)
    ∗ ∃ f, shLoc d (cV L) ↦[stripe (jL L)]{fullShare} f)

/-- Handed back: the same shares of the table and of the index row; the result chunks, written; its read share of the WHOLE
    shared table and what it kept of its own stripe, both holding the table. -/
def tdT (qx qi : PosShare TreeShare) (Tx : S10000x128.Idx → Elt F .f32) (Ix : S32x10496.Idx → Elt F .i32) : sProp 𝕄 :=
  iprop((xLoc d ↦{qx} Tx) ∗ (iLoc d ↦[iRowSet L]{qi} Ix)
    ∗ (bigSep Finset.univ fun tb : Fin k0_t1_loop.trips × Fin 2 => iprop(∃ f, oLoc d ↦[oChunkSet L tb.1 tb.2]{fullShare} f))
    ∗ (shLoc d (cV L) ↦{shTok (jV L)} Tx) ∗ (shLoc d (cV L) ↦[stripe (jL L)]{shKeep} Tx))

end Tile

end Cert.Proof.Tile

end
-- ==== Proof.BodyLemmas.lean ====
/-
  Geometry and bookkeeping for the gather-sum kernel's subcore body: the arrays as the subcore addresses them, the slots of
  the row and result scratches, the windows of the index scratch; the stripes of the table partition it; what the barrier's
  duties hand over and what a round collects; what the stage copy and the index copy leave; the index windows name rows.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefs

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

section Body
variable (d : Dev nD) (L : grid0.Coords)

abbrev thr : Thread nD τ := V d (cV L) (jV L)
abbrev g0sem : DmaSem sig := ((cc0_scratch4.slice (Rect.unit (s := S2) ![0] S1.size inb_S2_S1_0)).squeeze S_ squeezes_S1_S_).sem
abbrev g1sem : DmaSem sig := ((cc0_scratch4.slice (Rect.unit (s := S2) ![1] S1.size inb_S2_S1_1)).squeeze S_ squeezes_S1_S_).sem
abbrev o0sem : DmaSem sig := ((cc0_scratch5.slice (Rect.unit (s := S2) ![0] S1.size inb_S2_S1_0)).squeeze S_ squeezes_S1_S_).sem
abbrev o1sem : DmaSem sig := ((cc0_scratch5.slice (Rect.unit (s := S2) ![1] S1.size inb_S2_S1_1)).squeeze S_ squeezes_S1_S_).sem
abbrev cell (sm : DmaSem sig) : GSem nD τ sig := (V d (cV L) (jV L), .dma sm)

theorem pts_x (q : PosShare TreeShare) (f : S10000x128.Idx → Elt F .f32) :
    ((xV).view.loc (V d (cV L) (jV L)) ↦{q} f : sProp 𝕄) = xLoc d ↦{q} f := rfl
theorem pts_iRow (q : PosShare TreeShare) (f : S32x10496.Idx → Elt F .i32) :
    ((iRowK L).view.loc (V d (cV L) (jV L)) ↦[(iRowK L).view.set]{q} f : sProp 𝕄) = iLoc d ↦[iRowSet L]{q} f := rfl
theorem pts_shStripe (q : PosShare TreeShare) (f : S10000x128.Idx → Elt F .f32) :
    ((shStripeK L).view.loc (V d (cV L) (jV L)) ↦[(shStripeK L).view.set]{q} f : sProp 𝕄) = shLoc d (cV L) ↦[stripe (jL L)]{q} f := rfl
theorem pts_oChunk (t : Fin k0_t1_loop.trips) (b : Fin 2) (f : S10240x128.Idx → Elt F .f32) :
    ((oChunkK L t b).view.loc (V d (cV L) (jV L)) ↦[(oChunkK L t b).view.set]{fullShare} f : sProp 𝕄) = oLoc d ↦[oChunkSet L t b]{fullShare} f := rfl

theorem pts_ix (f : Buf (Elt F) ((V d (cV L) (jV L)).loc cc0_scratch0)) :
    ((ixV).view.loc (V d (cV L) (jV L)) ↦{fullShare} f : sProp 𝕄) = (V d (cV L) (jV L)).loc cc0_scratch0 ↦{fullShare} f := rfl
theorem pts_rw (f : Buf (Elt F) ((V d (cV L) (jV L)).loc cc0_scratch1)) :
    ((rwV).view.loc (V d (cV L) (jV L)) ↦{fullShare} f : sProp 𝕄) = (V d (cV L) (jV L)).loc cc0_scratch1 ↦{fullShare} f := rfl
theorem pts_ob (f : Buf (Elt F) ((V d (cV L) (jV L)).loc cc0_scratch2)) :
    ((obV).view.loc (V d (cV L) (jV L)) ↦{fullShare} f : sProp 𝕄) = (V d (cV L) (jV L)).loc cc0_scratch2 ↦{fullShare} f := rfl

abbrev rwK0 : Memref sig .scVector .vmem S128x128 .f32 :=
  ((rwV).slice (Rect.unit (s := S2x128x128) ![0, 0, 0] S1x128x128.size inb_S2x128x128_S1x128x128_0_0_0) (fun _ => rfl)).squeeze S128x128 squeezes_S1x128x128_S128x128
abbrev rwK1 : Memref sig .scVector .vmem S128x128 .f32 :=
  ((rwV).slice (Rect.unit (s := S2x128x128) ![1, 0, 0] S1x128x128.size inb_S2x128x128_S1x128x128_1_0_0) (fun _ => rfl)).squeeze S128x128 squeezes_S1x128x128_S128x128
abbrev obK0 : Memref sig .scVector .vmem S4x128 .f32 :=
  ((obV).slice (Rect.unit (s := S2x4x128) ![0, 0, 0] S1x4x128.size inb_S2x4x128_S1x4x128_0_0_0) (fun _ => rfl)).squeeze S4x128 squeezes_S1x4x128_S4x128
abbrev obK1 : Memref sig .scVector .vmem S4x128 .f32 :=
  ((obV).slice (Rect.unit (s := S2x4x128) ![1, 0, 0] S1x4x128.size inb_S2x4x128_S1x4x128_1_0_0) (fun _ => rfl)).squeeze S4x128 squeezes_S1x4x128_S4x128
/-- The `n`-th window of 128 entries of the index scratch. -/
abbrev ixWinK (n : ℕ) (h : ∀ a, (![128 * n] : Fin 1 → ℕ) a + S128.size a ≤ S10496.size a) : Memref sig .scVector .vmem S128 .i32 :=
  (ixV).slice (Rect.unit (s := S10496) ![128 * n] S128.size h) (fun _ => rfl)

/-! ## The stripes of the table -/

theorem k0_off2_eq : ∀ L : grid0.Coords, k0_off2 L = (![624 * (L 1).val, 0], ![if (L 1).val = 15 then 640 else 624, 128]) := by decide +kernel

theorem stripe_eq_set (n : Fin 16) : stripe n = (stripeRect (coordsV core0 (Fin.cast bound_one.symm n))).set := by
  unfold stripe; exact View.set_slice_whole _ _

theorem mem_stripe (n : Fin 16) (x : S10000x128.Idx) :
    x ∈ stripe n ↔ 624 * n.val ≤ (x 0 : ℕ) ∧ (x 0 : ℕ) < 624 * n.val + (if n.val = 15 then 640 else 624) := by
  have h1 : (coordsV core0 (Fin.cast bound_one.symm n)) 1 = Fin.cast bound_one.symm n := rfl
  rw [stripe_eq_set, stripeRect, Rect.mem_set_unit, k0_off2_eq, h1]
  constructor
  · intro h; have := h 0; simpa using this
  · intro h a
    match a with
    | 0 => simpa using h
    | 1 => exact ⟨Nat.zero_le _, by simpa using (x 1).isLt⟩

theorem stripes_disjoint : ∀ i ∈ (Finset.univ : Finset (Fin 16)), ∀ j ∈ (Finset.univ : Finset (Fin 16)), i ≠ j → Disjoint (stripe i) (stripe j) := by
  intro i _ j _ hij
  rw [Finset.disjoint_left]
  intro x hi hj
  rw [mem_stripe] at hi hj
  have : i.val ≠ j.val := fun h => hij (Fin.ext h)
  have hi' := i.isLt; have hj' := j.isLt
  split_ifs at hi hj <;> omega

theorem stripes_cover : (Finset.univ : Finset (Fin 16)).biUnion stripe = Finset.univ := by
  ext x
  simp only [Finset.mem_biUnion, Finset.mem_univ, true_and, iff_true]
  have hx : (x 0 : ℕ) < 10000 := (x 0).isLt
  by_cases h : (x 0 : ℕ) < 624 * 15
  · refine ⟨⟨(x 0 : ℕ) / 624, by omega⟩, (mem_stripe _ _).mpr ?_⟩
    have : ((x 0 : ℕ) / 624) ≠ 15 := by omega
    simp only [this, if_false]
    omega
  · exact ⟨⟨15, by decide⟩, (mem_stripe _ _).mpr (by simp; omega)⟩

/-! ## The barrier's payloads -/

theorem pays_intro (Tb : ℕ → Dev nD → S10000x128.Idx → Elt F .f32) (Tx : S10000x128.Idx → Elt F .f32) (hTb : Tb 0 d = Tx) :
    iprop(shLoc d (cV L) ↦[stripe (jL L)]{fullShare} Tx)
    ⊢ (iprop((shLoc d (cV L) ↦[stripe (jL L)]{shKeep} Tx)
        ∗ bigSep Finset.univ fun j : Fin (grid0.bound 1) => (bRd (U := U) Tb).payload (bcell d (cV L) (j.castLE hsub0)) 0 (jV L).val) : sProp 𝕄) := by
  have hp : ∀ j : Fin (grid0.bound 1), (bRd (U := U) Tb).payload (bcell d (cV L) (j.castLE hsub0)) 0 (jV L).val
      = (shLoc d (cV L) ↦[stripe (jL L)]{shTok (j.castLE hsub0)} Tx : sProp 𝕄) := fun j => by
    show bPay Tb (bcell d (cV L) (j.castLE hsub0)) 0 (jV L).val = _
    unfold bPay; dsimp only
    rw [dif_pos (show (jV L).val < 16 from (jV L).isLt), hTb]
    rfl
  rw [bigSep_congr fun j _ => hp j]
  exact Transfers.pointsTo_toks_split fullShare τ.nSub

theorem pays_elim (Tb : ℕ → Dev nD → S10000x128.Idx → Elt F .f32) (Tx : S10000x128.Idx → Elt F .f32) (hTb : Tb 0 d = Tx) :
    (bigSep ((bRd (U := U) Tb).duties (bcell d (cV L) (jV L)) 0 \ ∅) fun n => (bRd (U := U) Tb).payload (bcell d (cV L) (jV L)) 0 n)
    ⊢ (iprop(shLoc d (cV L) ↦{shTok (jV L)} Tx) : sProp 𝕄) := by
  rw [Finset.sdiff_empty, bRd_duties Tb d _ _ (by decide), SparseCore.bigSep_image_of_injOn (fun a _ b _ e => Fin.val_injective e)]
  have hp : ∀ i : Fin τ.nSub, (bRd (U := U) Tb).payload (bcell d (cV L) (jV L)) 0 i.val
      = (shLoc d (cV L) ↦[stripe (Fin.cast nSub_eq i)]{shTok (jV L)} Tx : sProp 𝕄) := fun i => by
    show bPay Tb (bcell d (cV L) (jV L)) 0 i.val = _
    unfold bPay; dsimp only
    rw [dif_pos (show i.val < 16 from i.isLt), hTb]
    rfl
  rw [bigSep_congr fun i _ => hp i]
  show (bigSep (Finset.univ : Finset (Fin 16)) fun i => (shLoc d (cV L) ↦[stripe i]{shTok (jV L)} Tx : sProp 𝕄)) ⊢ shLoc d (cV L) ↦[Finset.univ]{shTok (jV L)} Tx
  rw [← stripes_cover]
  exact Entails.of_eq (pointsTo_biUnion (ℓ := shLoc d (cV L)) (q := shTok (jV L)) (f := Tx) Finset.univ stripe stripes_disjoint).symm

/-! ## What the copies leave -/

/-- The stripe of the shared table after the stage copy holds the table's rows. -/
theorem stripe_copied (Tx fsh : S10000x128.Idx → Elt F .f32) :
    ∀ i ∈ (shStripeK L).view.set,
      (shStripeK L).view.writes (Elt F) fsh [⟨Rect.whole { rank := 2, size := (k0_off2 L).2 }, ReadAs.same.apply ((xStripeK L).view.read (Elt F) Tx)⟩] i = Tx i := by
  intro i hi
  obtain ⟨y, -, rfl⟩ := Finset.mem_map.mp hi
  have h := View.read_writes_cons_emb (Val := Elt F) (shStripeK L).view fsh (Rect.whole { rank := 2, size := (k0_off2 L).2 })
    (ReadAs.same.apply ((xStripeK L).view.read (Elt F) Tx)) [] y
  rw [Rect.emb_whole_apply, View.read_apply, ReadAs.apply_same, View.read_apply] at h
  simp only [cast_eq] at h
  exact h

/-- The index scratch after the copy of row `wid` holds that row. -/
theorem idx_copied (Ix : S32x10496.Idx → Elt F .i32) (f0 : S10496.Idx → Elt F .i32) :
    ∀ i ∈ (Finset.univ : Finset S10496.Idx),
      View.write (Elt F) (ixV).view f0 (ReadAs.same.apply ((iRowK L).view.read (Elt F) Ix)) Finset.univ i = (iRowK L).view.read (Elt F) Ix i := by
  intro i _
  show View.write (Elt F) (View.whole cc0_scratch0) f0 _ Finset.univ i = _
  rw [View.write_whole_univ]

/-- Every window of the index scratch names rows of the table. -/
theorem idx_inb (Ix : S32x10496.Idx → Elt F .i32) (hin : ∀ x, ((iRowK L).view.read (Elt F) Ix x).toNat < 10000)
    (r : Rect S10496) (hr : ∀ a, r.stride a = 1) (x : r.shape.Idx) :
    (((ixV).slice r hr).view.read (Elt F) ((iRowK L).view.read (Elt F) Ix) x).toNat < S10000x128.size (gathers_S10000x128_S128x128).axis := by
  rw [View.read_apply]
  exact hin _

end Body
end Cert.Proof.Tile
end
-- ==== Proof.BodyOwn.lean ====
/-
  A subcore's own semaphores and buffers, with the ones its task uses picked out.

  The launch hands a vector subcore every semaphore scoped to it at zero and every buffer it owns at some contents.
  The gather-sum task uses six of the semaphores (the two of its scoped regions, the two gather slots and the two
  write-out slots) and three of the buffers (the index, row and result scratches); the rest is carried along.
-/
import proofs.«205366_g3083786518796_cont_9to1_852_38_alg».proof.Proof.BodyDefs
import proofs.«205366_g3083786518796_cont_9to1_852_38_alg».proof.Proof.BodyLemmas

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
variable [FloatOps F]
variable {U : Type} [URA U] [CountersIn U]

local notation "𝕄" => MT nD τ sig (HIx 3) (Elt F) ℕ U ℕ

variable (d : Dev nD) (L : grid0.Coords)

theorem cell_mem (sm : DmaSem sig) (h : (SemLoc.dma sm : SemLoc sig).isScoped .scVector = true) :
    cell d L sm ∈ ownCells (V d (cV L) (jV L)) := (mem_ownCells (g := cell d L sm)).mpr ⟨rfl, h⟩

theorem cell_ne {sm sm' : DmaSem sig} (h : sm ≠ sm') : cell d L sm ≠ cell d L sm' :=
  fun e => h (SemLoc.dma.inj (Prod.mk.inj e).2)

/-- The subcore's scoped semaphores at zero: the six its task uses, and the rest. -/
theorem ownSems0_V :
    (ownSems0 (V d (cV L) (jV L)) : sProp 𝕄)
      = iprop(semVal (cell d L cc0_scoped0.sem) 0 ∗ semVal (cell d L cc0_scoped1.sem) 0 ∗ semVal (cell d L g0sem) 0 ∗ semVal (cell d L g1sem) 0
          ∗ semVal (cell d L o0sem) 0 ∗ semVal (cell d L o1sem) 0
          ∗ bigSep (((((((ownCells (V d (cV L) (jV L))).erase (cell d L cc0_scoped0.sem)).erase (cell d L cc0_scoped1.sem)).erase (cell d L g0sem)).erase (cell d L g1sem)).erase
              (cell d L o0sem)).erase (cell d L o1sem)) fun g => semVal g 0) := by
  unfold SparseCore.Cfg.ownSems0
  rw [SparseCore.bigSep_erase' (cell_mem d L cc0_scoped0.sem (by decide)),
    SparseCore.bigSep_erase' (Finset.mem_erase.mpr ⟨cell_ne d L (by decide), cell_mem d L cc0_scoped1.sem (by decide)⟩),
    SparseCore.bigSep_erase' (Finset.mem_erase.mpr ⟨cell_ne d L (by decide), Finset.mem_erase.mpr ⟨cell_ne d L (by decide), cell_mem d L g0sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L g1sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L o0sem (by decide)⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
        Finset.mem_erase.mpr ⟨cell_ne d L (by decide), cell_mem d L o1sem (by decide)⟩⟩⟩⟩⟩)]

theorem scratch_mem (b : Ref sig .scVector) (h : ((Proc.scVector (cV L) (jV L)).devRef b : DevRef τ sig).owner = .proc (Proc.scVector (cV L) (jV L))) :
    (Proc.scVector (cV L) (jV L)).devRef b ∈ ownRefs (τ := τ) (sig := sig) (.scVector (cV L) (jV L)) :=
  SparseCore.Cfg.mem_ownRefs_of_owner h

/-- The subcore's own buffers at some contents: the three scratches its task uses, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  rw [SparseCore.bigSep_erase' (scratch_mem L cc0_scratch0 rfl),
    SparseCore.bigSep_erase' (Finset.mem_erase.mpr ⟨fun e => absurd (Proc.devRef_injective _ e) (show (cc0_scratch1 : Ref sig .scVector) ≠ cc0_scratch0 by decide), scratch_mem L cc0_scratch1 rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide), scratch_mem L cc0_scratch2 rfl⟩⟩)]

end Cert.Proof.Tile

end
-- ==== Proof.BodyCover.lean ====
/-
  A worker's output rows as its eighty result chunks.

  Trip t (of forty) and slot b (of two) of subcore L write the four rows 320·w + 8·t + 4·b … + 3 of the padded
  output, w = 2·(L 1) + (L 0) the worker's number.  For a fixed worker these eighty row ranges are pairwise
  disjoint and their union is the worker's 320 rows 320·w … 320·w + 319; so owning the worker's rows outright is
  owning the eighty chunks, and eighty chunks each at some contents join into the rows at some contents.
-/
import proofs.«205366_g3083786518796_cont_9to1_852_38_alg».proof.Proof.BodyDefs
import proofs.«205366_g3083786518796_cont_9to1_852_38_alg».proof.Proof.BodyLemmas
import proofs.«205366_g3083786518796_cont_9to1_852_38_alg».proof.Proof.ScPay

noncomputable section

namespace Cert.Proof.Tile

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}
variable [FloatOps F]
variable {U : Type} [URA U] [CountersIn U]

local notation "𝕄" => MT nD τ sig (HIx 3) (Elt F) ℕ U ℕ

/-- The loop runs forty trips. -/
theorem trips_eq : k0_t1_loop.trips = 40 := by decide

theorem oChunkSet_eq (L : grid0.Coords) (t : Fin k0_t1_loop.trips) (b : Fin 2) :
    oChunkSet L t b = (Rect.unit (s := S10240x128) (k0_off20 L t (BitVec.ofNat 32 b.val)) S4x128.size (k0_off20_inb L t b)).set :=
  View.set_slice_whole _ _

/-- A chunk is four whole rows. -/
theorem mem_oChunkSet (L : grid0.Coords) (t : Fin k0_t1_loop.trips) (b : Fin 2) (x : S10240x128.Idx) :
    x ∈ oChunkSet L t b ↔ 640 * (L 1).val + 320 * (L 0).val + 8 * t.val + 4 * b.val ≤ (x 0 : ℕ)
      ∧ (x 0 : ℕ) < 640 * (L 1).val + 320 * (L 0).val + 8 * t.val + 4 * b.val + 4 := by
  rw [oChunkSet_eq, Rect.mem_set_unit, k0_off20_eq]
  constructor
  · intro h; have := h 0; simpa using this
  · intro h a
    match a with
    | 0 => simpa using h
    | 1 => exact ⟨Nat.zero_le _, by simpa using (x 1).isLt⟩

/-- A worker's rows. -/
theorem mem_outRect (w : Fin 32) (x : S10240x128.Idx) :
    x ∈ (Cert.Proof.KI.outRect w).set ↔ 320 * w.val ≤ (x 0 : ℕ) ∧ (x 0 : ℕ) < 320 * w.val + 320 := by
  unfold Cert.Proof.KI.outRect
  rw [Rect.mem_set_unit]
  constructor
  · intro h; have := h 0; simpa using this
  · intro h a
    match a with
    | 0 => simpa using h
    | 1 => exact ⟨Nat.zero_le _, by simpa using (x 1).isLt⟩

theorem oChunks_disjoint (L : grid0.Coords) :
    ∀ tb ∈ (Finset.univ : Finset (Fin k0_t1_loop.trips × Fin 2)), ∀ tb' ∈ (Finset.univ : Finset (Fin k0_t1_loop.trips × Fin 2)),
      tb ≠ tb' → Disjoint (oChunkSet L tb.1 tb.2) (oChunkSet L tb'.1 tb'.2) := by
  rintro ⟨t, b⟩ - ⟨t', b'⟩ - hne
  rw [Finset.disjoint_left]
  intro x h h'
  rw [mem_oChunkSet] at h h'
  have hd : t.val ≠ t'.val ∨ b.val ≠ b'.val := by
    by_contra hh
    have hh' := not_or.mp hh
    exact hne (Prod.ext (Fin.ext (not_not.mp hh'.1)) (Fin.ext (not_not.mp hh'.2)))
  have hb := b.isLt
  have hb' := b'.isLt
  dsimp only at h h'
  omega

theorem oChunks_cover (L : grid0.Coords) (w : Fin 32) (hw : w.val = 2 * (L 1).val + (L 0).val) :
    (Finset.univ : Finset (Fin k0_t1_loop.trips × Fin 2)).biUnion (fun tb => oChunkSet L tb.1 tb.2) = (Cert.Proof.KI.outRect w).set := by
  ext x
  simp only [Finset.mem_biUnion, Finset.mem_univ, true_and]
  rw [mem_outRect]
  constructor
  · rintro ⟨⟨t, b⟩, h⟩
    rw [mem_oChunkSet] at h
    have ht : t.val < 40 := lt_of_lt_of_eq t.isLt trips_eq
    have hb := b.isLt
    dsimp only at h
    omega
  · intro h
    refine ⟨(⟨((x 0 : ℕ) - 320 * w.val) / 8, by rw [trips_eq]; omega⟩, ⟨(((x 0 : ℕ) - 320 * w.val) % 8) / 4, by omega⟩), (mem_oChunkSet _ _ _ _).mpr ?_⟩
    dsimp only
    omega

/-- A worker's rows owned outright are its eighty chunks. -/
theorem oPts_chunks (d : Dev nD) (L : grid0.Coords) (w : Fin 32) (hw : w.val = 2 * (L 1).val + (L 0).val) (f : Buf (Elt F) (oLoc d)) :
    (oLoc d ↦[(Cert.Proof.KI.outRect w).set]{fullShare} f : sProp 𝕄)
      = bigSep Finset.univ fun tb : Fin k0_t1_loop.trips × Fin 2 => oLoc d ↦[oChunkSet L tb.1 tb.2]{fullShare} f := by
  rw [← pointsTo_biUnion Finset.univ (ℓ := oLoc d) (fun tb : Fin k0_t1_loop.trips × Fin 2 => oChunkSet L tb.1 tb.2) (oChunks_disjoint L),
    oChunks_cover L w hw]

/-- Eighty chunks, each at some contents, are the worker's rows at some contents. -/
theorem oChunks_join (d : Dev nD) (L : grid0.Coords) (w : Fin 32) (hw : w.val = 2 * (L 1).val + (L 0).val) :
    (bigSep Finset.univ fun tb : Fin k0_t1_loop.trips × Fin 2 => iprop(∃ f, oLoc d ↦[oChunkSet L tb.1 tb.2]{fullShare} f))
      ⊢ (iprop(∃ f, oLoc d ↦[(Cert.Proof.KI.outRect w).set]{fullShare} f) : sProp 𝕄) := by
  refine (bigSep_exists_pi Finset.univ (fun (tb : Fin k0_t1_loop.trips × Fin 2) (f : Buf (Elt F) (oLoc d)) =>
    (oLoc d ↦[oChunkSet L tb.1 tb.2]{fullShare} f : sProp 𝕄))).trans ?_
  iintro ⟨%fs, H⟩
  ihave H' := (pointsTo_biUnion_join Finset.univ (fun tb : Fin k0_t1_loop.trips × Fin 2 => oChunkSet L tb.1 tb.2) fs
    (fs (⟨0, by rw [trips_eq]; omega⟩, 0)) (oChunks_disjoint L)) $$ H
  icases H' with ⟨%g, -, Hg⟩
  rw [oChunks_cover L w hw]
  iexists g; iexact Hg

end Cert.Proof.Tile

end
-- ==== Proof.BodyDefsC1.lean ====
/-
  The SparseCore gather-sum kernel, as one vector subcore runs it: what the subcore is handed and what it hands back.

  Worker `wid = 2 s + c` (subcore `s` of SparseCore `c`) copies row `wid` of the index table into its index scratch, copies
  its stripe of the table (rows `624 s … 624 s + n`, `n = 640` for `s = 15` and `624` otherwise) into the SparseCore's shared
  memory, meets the sixteen subcores of its SparseCore at the subcore barrier, and then, forty times for each of two slots,
  gathers 128 rows of the shared table named by the next 128 indices, sums them 32 at a time along a balanced tree and
  copies the four sums out to rows `320 wid + 4 (2 t + b) …` of the result.

  The barrier carries the table: subcore `n`'s duty in subcore `j`'s round hands over the `j`-th read share of stripe `n` of the
  shared memory, holding the table's rows; leaving the barrier a subcore holds one read share of every stripe, that is, of
  the whole shared table, at the table's contents.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton

noncomputable section

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's configuration -/

abbrev ΛP : Labels := Pipeline.Sig Λ₀ (Fin 4) fun p => (pcfgs (F := F) p).Adm
abbrev K : SparseCore.Cfg τ sig (ΛP (F := F)) 3 := sc (F := F)
abbrev 𝒱₀ : Variants := Variants.none

theorem nSub_eq : τ.nSub = 16 := rfl
theorem bound_one : grid3.bound 1 = 16 := rfl

/-! ## The resource algebra: any, with the barrier cells' rounds library embedded and the transfers' counters inside -/

abbrev UB : Type := URounds (GSem nD τ sig) ℕ

variable {U : Type} [URA U]

local notation "𝕄" => MT nD τ sig (HIx 3) (Elt F) ℕ U ℕ

/-! ## The arrays -/

abbrev xLoc (d : Dev nD) : Loc nD τ sig := (SparseCore.T d).loc main_v11_0
abbrev iLoc (d : Dev nD) : Loc nD τ sig := (SparseCore.T d).loc main_v7
abbrev oLoc (d : Dev nD) : Loc nD τ sig := (SparseCore.T d).loc main_v12
/-- SparseCore `c`'s shared table, as every subcore of it addresses it. -/
abbrev shRef (c : Fin τ.nSC) : DevRef τ sig := ⟨.shared, ⟨1, by decide⟩, c⟩
abbrev shLoc (d : Dev nD) (c : Fin τ.nSC) : Loc nD τ sig := (d, shRef c)

local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

/-! ## A subcore's place -/

def coordsV (c : Fin (grid3.bound 0)) (s : Fin (grid3.bound 1)) : grid3.Coords :=
  fun | 0 => c | 1 => s | ⟨_ + 2, h⟩ => absurd h (Nat.not_lt.2 (Nat.le_add_left _ _))

abbrev cV (L : grid3.Coords) : Fin τ.nSC := (L 0).castLE hcore3
abbrev jV (L : grid3.Coords) : Fin τ.nSub := (L 1).castLE hsub3
abbrev jL (L : grid3.Coords) : Fin 16 := Fin.cast bound_one (L 1)
/-- The worker's number: `2 s + c`. -/
def wid (L : grid3.Coords) : ℕ := 2 * (L 1).val + (L 0).val

/-! ## The pieces, spelt as the program slices them -/

/-- Row `wid` of the index table. -/
abbrev iRowK (L : grid3.Coords) : Memref sig .scVector .hbm S10496 .i32 :=
  ((iV).slice (Rect.unit (s := S32x10496) (k3_off1 L) S1x10496.size (k3_off1_inb L)) (fun _ => rfl)).squeeze S10496 squeezes_S1x10496_S10496
/-- The subcore's stripe of the table, and of the shared table. -/
abbrev xStripeK (L : grid3.Coords) : Memref sig .scVector .hbm ⟨2, (k3_off2 L).2⟩ .f32 :=
  (xV).slice (Rect.unit (s := S10000x128) (k3_off2 L).1 (k3_off2 L).2 (k3_off2_inb L)) (fun _ => rfl)
abbrev shStripeK (L : grid3.Coords) : Memref sig .scVector .shared ⟨2, (k3_off2 L).2⟩ .f32 :=
  (shV).slice (Rect.unit (s := S10000x128) (k3_off2 L).1 (k3_off2 L).2 (k3_off2_inb L)) (fun _ => rfl)
/-- The shared table whole, as the gathers address it. -/
abbrev shAllK : Memref sig .scVector .shared S10000x128 .f32 :=
  (shV).slice (Rect.unit (s := S10000x128) ![0, 0] S10000x128.size inb_S10000x128_S10000x128_0_0) (fun _ => rfl)
/-- The four result rows of trip `t`, slot `b`: rows `320 wid + 4 (2 t + b) …`. -/
abbrev oChunkK (L : grid3.Coords) (t : Fin k3_t1_loop.trips) (b : Fin 2) : Memref sig .scVector .hbm S4x128 .f32 :=
  (oV).slice (Rect.unit (s := S10240x128) (k3_off20 L t (BitVec.ofNat 32 b.val)) S4x128.size (k3_off20_inb L t b)) (fun _ => rfl)

/-- Stripe `n` of the table (the same on either SparseCore): rows `624 n …`, 640 of them for `n = 15` and 624 otherwise. -/
abbrev stripeRect (L : grid3.Coords) : Rect S10000x128 := Rect.unit (s := S10000x128) (k3_off2 L).1 (k3_off2 L).2 (k3_off2_inb L)
def core0 : Fin (grid3.bound 0) := ⟨0, by decide⟩
def stripe (n : Fin 16) : Finset S10000x128.Idx := ((xV).view.slice (stripeRect (coordsV core0 (Fin.cast bound_one.symm n)))).set
/-- The elements of row `wid` of the index table. -/
abbrev iRowSet (L : grid3.Coords) : Finset S32x10496.Idx := (iRowK L).view.set
/-- The elements of a result chunk. -/
abbrev oChunkSet (L : grid3.Coords) (t : Fin k3_t1_loop.trips) (b : Fin 2) : Finset S10240x128.Idx := (oChunkK L t b).view.set

theorem set_shStripeK (L : grid3.Coords) : (shStripeK L).view.set = stripe (jL L) := rfl
theorem set_xStripeK (L : grid3.Coords) : (xStripeK L).view.set = stripe (jL L) := rfl

/-! ## The barrier cells: the rounds' schedule, carrying the table -/

/-- Subcore `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The read share of the shared table that goes to subcore `j`. -/
abbrev shTok (j : Fin τ.nSub) : PosShare TreeShare := Transfers.shareTok fullShare τ.nSub j
/-- What a stripe's owner keeps of it. -/
abbrev shKeep : PosShare TreeShare := Transfers.shareDrop fullShare τ.nSub

/-- What the duty named `n` in subcore `j`'s round `r` hands over: subcore `j`'s read share of stripe `n` of the shared
    table, holding the table of that round (call `r` of the kernel). -/
def bPay (Tb : ℕ → Dev nD → S10000x128.Idx → Elt F .f32) (g : GSem nD τ sig) (r n : ℕ) : sProp 𝕄 :=
  match g with
  | ((d, .scVector c j), _) => if h : n < 16 then iprop(shLoc d c ↦[stripe ⟨n, h⟩]{shTok j} Tb r d) else iprop(emp)
  | _ => iprop(emp)

/-- The barrier cells' schedule: round `r < 3` (one per call of the kernel) on each, of one unit duty per subcore of the
    SparseCore (named by its number). -/
def bRd (Tb : ℕ → Dev nD → S10000x128.Idx → Elt F .f32) : Rounds.Schedule (GSem nD τ sig) ℕ 𝕄 where
  duties g r := if isBar g ∧ r < 3 then (Finset.univ : Finset (Fin τ.nSub)).image Fin.val else ∅
  amount _ _ _ := 1
  payload g r n := bPay Tb g r n
  amount_pos _ _ _ _ := Nat.one_pos

instance bRd_payload_storable (Tb : ℕ → Dev nD → S10000x128.Idx → Elt F .f32) (g : GSem nD τ sig) (r n : ℕ) :
    BI.Storable (upEmb : UEmb _ 𝕄) ((bRd (U := U) Tb).payload g r n) := by
  show BI.Storable upEmb (bPay Tb g r n)
  unfold bPay
  rcases g with ⟨⟨d, _ | c | ⟨c, i⟩⟩, sm⟩ <;> dsimp only <;> (repeat' split) <;> infer_instance

theorem bRd_duties (Tb : ℕ → Dev nD → S10000x128.Idx → Elt F .f32) (d : Dev nD) (c : Fin τ.nSC) (j : Fin τ.nSub) {r : ℕ} (hr : r < 3) :
    (bRd (U := U) Tb).duties (bcell d c j) r = (Finset.univ : Finset (Fin τ.nSub)).image Fin.val := by
  simp [bRd, isBar, hr]
theorem bRd_mem (Tb : ℕ → Dev nD → S10000x128.Idx → Elt F .f32) (d : Dev nD) (c : Fin τ.nSC) (j i : Fin τ.nSub) {r : ℕ} (hr : r < 3) :
    i.val ∈ (bRd (U := U) Tb).duties (bcell d c j) r := by
  rw [bRd_duties Tb d c j hr]; exact Finset.mem_image_of_mem _ (Finset.mem_univ i)
theorem bRd_expect (Tb : ℕ → Dev nD → S10000x128.Idx → Elt F .f32) (d : Dev nD) (c : Fin τ.nSC) (j : Fin τ.nSub) {r : ℕ} (hr : r < 3) :
    0 + grid3.bound 1 = (bRd (U := U) Tb).expect (bcell d c j) r := by
  unfold Rounds.Schedule.expect; rw [bRd_duties Tb d c j hr]
  show 0 + 16 = ∑ x ∈ (Finset.univ : Finset (Fin 16)).image Fin.val, 1
  rw [Finset.sum_const, Finset.card_image_of_injective _ Fin.val_injective]; rfl

/-- What the launch has a subcore owe for the barrier of call `q`: a unit on every subcore's cell of its SparseCore. -/
def oxV (d : Dev nD) (c : Fin τ.nSC) (q : Fin 3) : CellTallies nD τ sig (HIx 3) :=
  ∑ j : Fin (grid3.bound 1), tallyAt (bcell d c (j.castLE hsub3)) (some q) 1

theorem oxV_none (d : Dev nD) (c : Fin τ.nSC) (q : Fin 3) (g : GSem nD τ sig) : oxV d c q g none = 0 := by
  unfold oxV
  rw [Finset.sum_apply, Finsupp.finsetSum_apply]
  exact Finset.sum_eq_zero fun j _ => by rw [tallyAt_apply, if_neg (fun e => nomatch e.2)]

/-- Subcore `(c, i)`'s barrier kit for round `r` (call `q`): every subcore's cell invariant of its SparseCore and that each has
    reached round `r`, its own position at the origin of round `r`, its duty token in every subcore's round `r`, and the
    credit for the sixteen units of its own round. -/
def bkit (EB : Emb (URounds (GSem nD τ sig) ℕ) (MT nD τ sig (HIx 3) (Elt F) ℕ U ℕ)) (Tb : ℕ → Dev nD → S10000x128.Idx → Elt F .f32) (r : ℕ) (q : Fin 3) (d : Dev nD) (c : Fin τ.nSC) (i : Fin τ.nSub) : sProp 𝕄 :=
  iprop((∃ κ : GSem nD τ sig → ℕ, bigSep Finset.univ fun j : Fin (grid3.bound 1) =>
      cellInv EB (bRd (U := U) Tb) (κ (bcell d c (j.castLE hsub3))) (bcell d c (j.castLE hsub3)))
    ∗ (bigSep Finset.univ fun j : Fin (grid3.bound 1) => dutyTok EB (bcell d c (j.castLE hsub3)) r i.val)
    ∗ (bigSep Finset.univ fun j : Fin (grid3.bound 1) => reached (D := ℕ) EB (bcell d c (j.castLE hsub3)) r)
    ∗ atPos EB (bcell d c i) r (∅ : Finset ℕ) 0
    ∗ cred (tallyAt (bcell d c i) (some q) (grid3.bound 1)))

/-! ## What a subcore is handed, and what it hands back -/

section Tile

variable (d : Dev nD) (L : grid3.Coords)

/-- Handed to subcore `L`: a read share `qx` of the table (contents `Tx`), a share `qi` of row `wid` of the index table
    (contents `Ix`), its eighty result chunks outright (contents `fo`), and its stripe of the shared table outright. -/
def goT (qx qi : PosShare TreeShare) (Tx : S10000x128.Idx → Elt F .f32) (Ix : S32x10496.Idx → Elt F .i32) (fo : S10240x128.Idx → Elt F .f32) : sProp 𝕄 :=
  iprop((xLoc d ↦{qx} Tx) ∗ (iLoc d ↦[iRowSet L]{qi} Ix)
    ∗ (bigSep Finset.univ fun tb : Fin k3_t1_loop.trips × Fin 2 => oLoc d ↦[oChunkSet L tb.1 tb.2]{fullShare} fo)
    ∗ ∃ f, shLoc d (cV L) ↦[stripe (jL L)]{fullShare} f)

/-- Handed back: the same shares of the table and of the index row; the result chunks, written; its read share of the WHOLE
    shared table and what it kept of its own stripe, both holding the table. -/
def tdT (qx qi : PosShare TreeShare) (Tx : S10000x128.Idx → Elt F .f32) (Ix : S32x10496.Idx → Elt F .i32) : sProp 𝕄 :=
  iprop((xLoc d ↦{qx} Tx) ∗ (iLoc d ↦[iRowSet L]{qi} Ix)
    ∗ (bigSep Finset.univ fun tb : Fin k3_t1_loop.trips × Fin 2 => iprop(∃ f, oLoc d ↦[oChunkSet L tb.1 tb.2]{fullShare} f))
    ∗ (shLoc d (cV L) ↦{shTok (jV L)} Tx) ∗ (shLoc d (cV L) ↦[stripe (jL L)]{shKeep} Tx))

end Tile

end Cert.Proof.Tile1

end
-- ==== Proof.BodyLemmasC1.lean ====
/-
  Geometry and bookkeeping for the gather-sum kernel's subcore body: the arrays as the subcore addresses them, the slots of
  the row and result scratches, the windows of the index scratch; the stripes of the table partition it; what the barrier's
  duties hand over and what a round collects; what the stage copy and the index copy leave; the index windows name rows.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC1

noncomputable section

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

section Body
variable (d : Dev nD) (L : grid3.Coords)

abbrev thr : Thread nD τ := V d (cV L) (jV L)
abbrev g0sem : DmaSem sig := ((cc3_scratch4.slice (Rect.unit (s := S2) ![0] S1.size inb_S2_S1_0)).squeeze S_ squeezes_S1_S_).sem
abbrev g1sem : DmaSem sig := ((cc3_scratch4.slice (Rect.unit (s := S2) ![1] S1.size inb_S2_S1_1)).squeeze S_ squeezes_S1_S_).sem
abbrev o0sem : DmaSem sig := ((cc3_scratch5.slice (Rect.unit (s := S2) ![0] S1.size inb_S2_S1_0)).squeeze S_ squeezes_S1_S_).sem
abbrev o1sem : DmaSem sig := ((cc3_scratch5.slice (Rect.unit (s := S2) ![1] S1.size inb_S2_S1_1)).squeeze S_ squeezes_S1_S_).sem
abbrev cell (sm : DmaSem sig) : GSem nD τ sig := (V d (cV L) (jV L), .dma sm)

theorem pts_x (q : PosShare TreeShare) (f : S10000x128.Idx → Elt F .f32) :
    ((xV).view.loc (V d (cV L) (jV L)) ↦{q} f : sProp 𝕄) = xLoc d ↦{q} f := rfl
theorem pts_iRow (q : PosShare TreeShare) (f : S32x10496.Idx → Elt F .i32) :
    ((iRowK L).view.loc (V d (cV L) (jV L)) ↦[(iRowK L).view.set]{q} f : sProp 𝕄) = iLoc d ↦[iRowSet L]{q} f := rfl
theorem pts_shStripe (q : PosShare TreeShare) (f : S10000x128.Idx → Elt F .f32) :
    ((shStripeK L).view.loc (V d (cV L) (jV L)) ↦[(shStripeK L).view.set]{q} f : sProp 𝕄) = shLoc d (cV L) ↦[stripe (jL L)]{q} f := rfl
theorem pts_oChunk (t : Fin k3_t1_loop.trips) (b : Fin 2) (f : S10240x128.Idx → Elt F .f32) :
    ((oChunkK L t b).view.loc (V d (cV L) (jV L)) ↦[(oChunkK L t b).view.set]{fullShare} f : sProp 𝕄) = oLoc d ↦[oChunkSet L t b]{fullShare} f := rfl

theorem pts_ix (f : Buf (Elt F) ((V d (cV L) (jV L)).loc cc3_scratch0)) :
    ((ixV).view.loc (V d (cV L) (jV L)) ↦{fullShare} f : sProp 𝕄) = (V d (cV L) (jV L)).loc cc3_scratch0 ↦{fullShare} f := rfl
theorem pts_rw (f : Buf (Elt F) ((V d (cV L) (jV L)).loc cc3_scratch1)) :
    ((rwV).view.loc (V d (cV L) (jV L)) ↦{fullShare} f : sProp 𝕄) = (V d (cV L) (jV L)).loc cc3_scratch1 ↦{fullShare} f := rfl
theorem pts_ob (f : Buf (Elt F) ((V d (cV L) (jV L)).loc cc3_scratch2)) :
    ((obV).view.loc (V d (cV L) (jV L)) ↦{fullShare} f : sProp 𝕄) = (V d (cV L) (jV L)).loc cc3_scratch2 ↦{fullShare} f := rfl

abbrev rwK0 : Memref sig .scVector .vmem S128x128 .f32 :=
  ((rwV).slice (Rect.unit (s := S2x128x128) ![0, 0, 0] S1x128x128.size inb_S2x128x128_S1x128x128_0_0_0) (fun _ => rfl)).squeeze S128x128 squeezes_S1x128x128_S128x128
abbrev rwK1 : Memref sig .scVector .vmem S128x128 .f32 :=
  ((rwV).slice (Rect.unit (s := S2x128x128) ![1, 0, 0] S1x128x128.size inb_S2x128x128_S1x128x128_1_0_0) (fun _ => rfl)).squeeze S128x128 squeezes_S1x128x128_S128x128
abbrev obK0 : Memref sig .scVector .vmem S4x128 .f32 :=
  ((obV).slice (Rect.unit (s := S2x4x128) ![0, 0, 0] S1x4x128.size inb_S2x4x128_S1x4x128_0_0_0) (fun _ => rfl)).squeeze S4x128 squeezes_S1x4x128_S4x128
abbrev obK1 : Memref sig .scVector .vmem S4x128 .f32 :=
  ((obV).slice (Rect.unit (s := S2x4x128) ![1, 0, 0] S1x4x128.size inb_S2x4x128_S1x4x128_1_0_0) (fun _ => rfl)).squeeze S4x128 squeezes_S1x4x128_S4x128
/-- The `n`-th window of 128 entries of the index scratch. -/
abbrev ixWinK (n : ℕ) (h : ∀ a, (![128 * n] : Fin 1 → ℕ) a + S128.size a ≤ S10496.size a) : Memref sig .scVector .vmem S128 .i32 :=
  (ixV).slice (Rect.unit (s := S10496) ![128 * n] S128.size h) (fun _ => rfl)

/-! ## The stripes of the table -/

theorem k3_off2_eq : ∀ L : grid3.Coords, k3_off2 L = (![624 * (L 1).val, 0], ![if (L 1).val = 15 then 640 else 624, 128]) := by decide +kernel

theorem stripe_eq_set (n : Fin 16) : stripe n = (stripeRect (coordsV core0 (Fin.cast bound_one.symm n))).set := by
  unfold stripe; exact View.set_slice_whole _ _

theorem mem_stripe (n : Fin 16) (x : S10000x128.Idx) :
    x ∈ stripe n ↔ 624 * n.val ≤ (x 0 : ℕ) ∧ (x 0 : ℕ) < 624 * n.val + (if n.val = 15 then 640 else 624) := by
  have h1 : (coordsV core0 (Fin.cast bound_one.symm n)) 1 = Fin.cast bound_one.symm n := rfl
  rw [stripe_eq_set, stripeRect, Rect.mem_set_unit, k3_off2_eq, h1]
  constructor
  · intro h; have := h 0; simpa using this
  · intro h a
    match a with
    | 0 => simpa using h
    | 1 => exact ⟨Nat.zero_le _, by simpa using (x 1).isLt⟩

theorem stripes_disjoint : ∀ i ∈ (Finset.univ : Finset (Fin 16)), ∀ j ∈ (Finset.univ : Finset (Fin 16)), i ≠ j → Disjoint (stripe i) (stripe j) := by
  intro i _ j _ hij
  rw [Finset.disjoint_left]
  intro x hi hj
  rw [mem_stripe] at hi hj
  have : i.val ≠ j.val := fun h => hij (Fin.ext h)
  have hi' := i.isLt; have hj' := j.isLt
  split_ifs at hi hj <;> omega

theorem stripes_cover : (Finset.univ : Finset (Fin 16)).biUnion stripe = Finset.univ := by
  ext x
  simp only [Finset.mem_biUnion, Finset.mem_univ, true_and, iff_true]
  have hx : (x 0 : ℕ) < 10000 := (x 0).isLt
  by_cases h : (x 0 : ℕ) < 624 * 15
  · refine ⟨⟨(x 0 : ℕ) / 624, by omega⟩, (mem_stripe _ _).mpr ?_⟩
    have : ((x 0 : ℕ) / 624) ≠ 15 := by omega
    simp only [this, if_false]
    omega
  · exact ⟨⟨15, by decide⟩, (mem_stripe _ _).mpr (by simp; omega)⟩

/-! ## The barrier's payloads -/

theorem pays_intro (Tb : ℕ → Dev nD → S10000x128.Idx → Elt F .f32) (Tx : S10000x128.Idx → Elt F .f32) (hTb : Tb 0 d = Tx) :
    iprop(shLoc d (cV L) ↦[stripe (jL L)]{fullShare} Tx)
    ⊢ (iprop((shLoc d (cV L) ↦[stripe (jL L)]{shKeep} Tx)
        ∗ bigSep Finset.univ fun j : Fin (grid3.bound 1) => (bRd (U := U) Tb).payload (bcell d (cV L) (j.castLE hsub3)) 0 (jV L).val) : sProp 𝕄) := by
  have hp : ∀ j : Fin (grid3.bound 1), (bRd (U := U) Tb).payload (bcell d (cV L) (j.castLE hsub3)) 0 (jV L).val
      = (shLoc d (cV L) ↦[stripe (jL L)]{shTok (j.castLE hsub3)} Tx : sProp 𝕄) := fun j => by
    show bPay Tb (bcell d (cV L) (j.castLE hsub3)) 0 (jV L).val = _
    unfold bPay; dsimp only
    rw [dif_pos (show (jV L).val < 16 from (jV L).isLt), hTb]
    rfl
  rw [bigSep_congr fun j _ => hp j]
  exact Transfers.pointsTo_toks_split fullShare τ.nSub

theorem pays_elim (Tb : ℕ → Dev nD → S10000x128.Idx → Elt F .f32) (Tx : S10000x128.Idx → Elt F .f32) (hTb : Tb 0 d = Tx) :
    (bigSep ((bRd (U := U) Tb).duties (bcell d (cV L) (jV L)) 0 \ ∅) fun n => (bRd (U := U) Tb).payload (bcell d (cV L) (jV L)) 0 n)
    ⊢ (iprop(shLoc d (cV L) ↦{shTok (jV L)} Tx) : sProp 𝕄) := by
  rw [Finset.sdiff_empty, bRd_duties Tb d _ _ (by decide), SparseCore.bigSep_image_of_injOn (fun a _ b _ e => Fin.val_injective e)]
  have hp : ∀ i : Fin τ.nSub, (bRd (U := U) Tb).payload (bcell d (cV L) (jV L)) 0 i.val
      = (shLoc d (cV L) ↦[stripe (Fin.cast nSub_eq i)]{shTok (jV L)} Tx : sProp 𝕄) := fun i => by
    show bPay Tb (bcell d (cV L) (jV L)) 0 i.val = _
    unfold bPay; dsimp only
    rw [dif_pos (show i.val < 16 from i.isLt), hTb]
    rfl
  rw [bigSep_congr fun i _ => hp i]
  show (bigSep (Finset.univ : Finset (Fin 16)) fun i => (shLoc d (cV L) ↦[stripe i]{shTok (jV L)} Tx : sProp 𝕄)) ⊢ shLoc d (cV L) ↦[Finset.univ]{shTok (jV L)} Tx
  rw [← stripes_cover]
  exact Entails.of_eq (pointsTo_biUnion (ℓ := shLoc d (cV L)) (q := shTok (jV L)) (f := Tx) Finset.univ stripe stripes_disjoint).symm

/-! ## What the copies leave -/

/-- The stripe of the shared table after the stage copy holds the table's rows. -/
theorem stripe_copied (Tx fsh : S10000x128.Idx → Elt F .f32) :
    ∀ i ∈ (shStripeK L).view.set,
      (shStripeK L).view.writes (Elt F) fsh [⟨Rect.whole { rank := 2, size := (k3_off2 L).2 }, ReadAs.same.apply ((xStripeK L).view.read (Elt F) Tx)⟩] i = Tx i := by
  intro i hi
  obtain ⟨y, -, rfl⟩ := Finset.mem_map.mp hi
  have h := View.read_writes_cons_emb (Val := Elt F) (shStripeK L).view fsh (Rect.whole { rank := 2, size := (k3_off2 L).2 })
    (ReadAs.same.apply ((xStripeK L).view.read (Elt F) Tx)) [] y
  rw [Rect.emb_whole_apply, View.read_apply, ReadAs.apply_same, View.read_apply] at h
  simp only [cast_eq] at h
  exact h

/-- The index scratch after the copy of row `wid` holds that row. -/
theorem idx_copied (Ix : S32x10496.Idx → Elt F .i32) (f0 : S10496.Idx → Elt F .i32) :
    ∀ i ∈ (Finset.univ : Finset S10496.Idx),
      View.write (Elt F) (ixV).view f0 (ReadAs.same.apply ((iRowK L).view.read (Elt F) Ix)) Finset.univ i = (iRowK L).view.read (Elt F) Ix i := by
  intro i _
  show View.write (Elt F) (View.whole cc3_scratch0) f0 _ Finset.univ i = _
  rw [View.write_whole_univ]

/-- Every window of the index scratch names rows of the table. -/
theorem idx_inb (Ix : S32x10496.Idx → Elt F .i32) (hin : ∀ x, ((iRowK L).view.read (Elt F) Ix x).toNat < 10000)
    (r : Rect S10496) (hr : ∀ a, r.stride a = 1) (x : r.shape.Idx) :
    (((ixV).slice r hr).view.read (Elt F) ((iRowK L).view.read (Elt F) Ix) x).toNat < S10000x128.size (gathers_S10000x128_S128x128).axis := by
  rw [View.read_apply]
  exact hin _

end Body
end Cert.Proof.Tile1
end
-- ==== Proof.BodyDefsC2.lean ====
/-
  The SparseCore gather-sum kernel, as one vector subcore runs it: what the subcore is handed and what it hands back.

  Worker `wid = 2 s + c` (subcore `s` of SparseCore `c`) copies row `wid` of the index table into its index scratch, copies
  its stripe of the table (rows `624 s … 624 s + n`, `n = 640` for `s = 15` and `624` otherwise) into the SparseCore's shared
  memory, meets the sixteen subcores of its SparseCore at the subcore barrier, and then, forty times for each of two slots,
  gathers 128 rows of the shared table named by the next 128 indices, sums them 32 at a time along a balanced tree and
  copies the four sums out to rows `320 wid + 4 (2 t + b) …` of the result.

  The barrier carries the table: subcore `n`'s duty in subcore `j`'s round hands over the `j`-th read share of stripe `n` of the
  shared memory, holding the table's rows; leaving the barrier a subcore holds one read share of every stripe, that is, of
  the whole shared table, at the table's contents.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton

noncomputable section

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's configuration -/

abbrev ΛP : Labels := Pipeline.Sig Λ₀ (Fin 4) fun p => (pcfgs (F := F) p).Adm
abbrev K : SparseCore.Cfg τ sig (ΛP (F := F)) 3 := sc (F := F)
abbrev 𝒱₀ : Variants := Variants.none

theorem nSub_eq : τ.nSub = 16 := rfl
theorem bound_one : grid5.bound 1 = 16 := rfl

/-! ## The resource algebra: any, with the barrier cells' rounds library embedded and the transfers' counters inside -/

abbrev UB : Type := URounds (GSem nD τ sig) ℕ

variable {U : Type} [URA U]

local notation "𝕄" => MT nD τ sig (HIx 3) (Elt F) ℕ U ℕ

/-! ## The arrays -/

abbrev xLoc (d : Dev nD) : Loc nD τ sig := (SparseCore.T d).loc main_v14_0
abbrev iLoc (d : Dev nD) : Loc nD τ sig := (SparseCore.T d).loc main_v7
abbrev oLoc (d : Dev nD) : Loc nD τ sig := (SparseCore.T d).loc main_v15
/-- SparseCore `c`'s shared table, as every subcore of it addresses it. -/
abbrev shRef (c : Fin τ.nSC) : DevRef τ sig := ⟨.shared, ⟨2, by decide⟩, c⟩
abbrev shLoc (d : Dev nD) (c : Fin τ.nSC) : Loc nD τ sig := (d, shRef c)

local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

/-! ## A subcore's place -/

def coordsV (c : Fin (grid5.bound 0)) (s : Fin (grid5.bound 1)) : grid5.Coords :=
  fun | 0 => c | 1 => s | ⟨_ + 2, h⟩ => absurd h (Nat.not_lt.2 (Nat.le_add_left _ _))

abbrev cV (L : grid5.Coords) : Fin τ.nSC := (L 0).castLE hcore5
abbrev jV (L : grid5.Coords) : Fin τ.nSub := (L 1).castLE hsub5
abbrev jL (L : grid5.Coords) : Fin 16 := Fin.cast bound_one (L 1)
/-- The worker's number: `2 s + c`. -/
def wid (L : grid5.Coords) : ℕ := 2 * (L 1).val + (L 0).val

/-! ## The pieces, spelt as the program slices them -/

/-- Row `wid` of the index table. -/
abbrev iRowK (L : grid5.Coords) : Memref sig .scVector .hbm S10496 .i32 :=
  ((iV).slice (Rect.unit (s := S32x10496) (k5_off1 L) S1x10496.size (k5_off1_inb L)) (fun _ => rfl)).squeeze S10496 squeezes_S1x10496_S10496
/-- The subcore's stripe of the table, and of the shared table. -/
abbrev xStripeK (L : grid5.Coords) : Memref sig .scVector .hbm ⟨2, (k5_off2 L).2⟩ .f32 :=
  (xV).slice (Rect.unit (s := S10000x128) (k5_off2 L).1 (k5_off2 L).2 (k5_off2_inb L)) (fun _ => rfl)
abbrev shStripeK (L : grid5.Coords) : Memref sig .scVector .shared ⟨2, (k5_off2 L).2⟩ .f32 :=
  (shV).slice (Rect.unit (s := S10000x128) (k5_off2 L).1 (k5_off2 L).2 (k5_off2_inb L)) (fun _ => rfl)
/-- The shared table whole, as the gathers address it. -/
abbrev shAllK : Memref sig .scVector .shared S10000x128 .f32 :=
  (shV).slice (Rect.unit (s := S10000x128) ![0, 0] S10000x128.size inb_S10000x128_S10000x128_0_0) (fun _ => rfl)
/-- The four result rows of trip `t`, slot `b`: rows `320 wid + 4 (2 t + b) …`. -/
abbrev oChunkK (L : grid5.Coords) (t : Fin k5_t1_loop.trips) (b : Fin 2) : Memref sig .scVector .hbm S4x128 .f32 :=
  (oV).slice (Rect.unit (s := S10240x128) (k5_off20 L t (BitVec.ofNat 32 b.val)) S4x128.size (k5_off20_inb L t b)) (fun _ => rfl)

/-- Stripe `n` of the table (the same on either SparseCore): rows `624 n …`, 640 of them for `n = 15` and 624 otherwise. -/
abbrev stripeRect (L : grid5.Coords) : Rect S10000x128 := Rect.unit (s := S10000x128) (k5_off2 L).1 (k5_off2 L).2 (k5_off2_inb L)
def core0 : Fin (grid5.bound 0) := ⟨0, by decide⟩
def stripe (n : Fin 16) : Finset S10000x128.Idx := ((xV).view.slice (stripeRect (coordsV core0 (Fin.cast bound_one.symm n)))).set
/-- The elements of row `wid` of the index table. -/
abbrev iRowSet (L : grid5.Coords) : Finset S32x10496.Idx := (iRowK L).view.set
/-- The elements of a result chunk. -/
abbrev oChunkSet (L : grid5.Coords) (t : Fin k5_t1_loop.trips) (b : Fin 2) : Finset S10240x128.Idx := (oChunkK L t b).view.set

theorem set_shStripeK (L : grid5.Coords) : (shStripeK L).view.set = stripe (jL L) := rfl
theorem set_xStripeK (L : grid5.Coords) : (xStripeK L).view.set = stripe (jL L) := rfl

/-! ## The barrier cells: the rounds' schedule, carrying the table -/

/-- Subcore `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The read share of the shared table that goes to subcore `j`. -/
abbrev shTok (j : Fin τ.nSub) : PosShare TreeShare := Transfers.shareTok fullShare τ.nSub j
/-- What a stripe's owner keeps of it. -/
abbrev shKeep : PosShare TreeShare := Transfers.shareDrop fullShare τ.nSub

/-- What the duty named `n` in subcore `j`'s round `r` hands over: subcore `j`'s read share of stripe `n` of the shared
    table, holding the table of that round (call `r` of the kernel). -/
def bPay (Tb : ℕ → Dev nD → S10000x128.Idx → Elt F .f32) (g : GSem nD τ sig) (r n : ℕ) : sProp 𝕄 :=
  match g with
  | ((d, .scVector c j), _) => if h : n < 16 then iprop(shLoc d c ↦[stripe ⟨n, h⟩]{shTok j} Tb r d) else iprop(emp)
  | _ => iprop(emp)

/-- The barrier cells' schedule: round `r < 3` (one per call of the kernel) on each, of one unit duty per subcore of the
    SparseCore (named by its number). -/
def bRd (Tb : ℕ → Dev nD → S10000x128.Idx → Elt F .f32) : Rounds.Schedule (GSem nD τ sig) ℕ 𝕄 where
  duties g r := if isBar g ∧ r < 3 then (Finset.univ : Finset (Fin τ.nSub)).image Fin.val else ∅
  amount _ _ _ := 1
  payload g r n := bPay Tb g r n
  amount_pos _ _ _ _ := Nat.one_pos

instance bRd_payload_storable (Tb : ℕ → Dev nD → S10000x128.Idx → Elt F .f32) (g : GSem nD τ sig) (r n : ℕ) :
    BI.Storable (upEmb : UEmb _ 𝕄) ((bRd (U := U) Tb).payload g r n) := by
  show BI.Storable upEmb (bPay Tb g r n)
  unfold bPay
  rcases g with ⟨⟨d, _ | c | ⟨c, i⟩⟩, sm⟩ <;> dsimp only <;> (repeat' split) <;> infer_instance

theorem bRd_duties (Tb : ℕ → Dev nD → S10000x128.Idx → Elt F .f32) (d : Dev nD) (c : Fin τ.nSC) (j : Fin τ.nSub) {r : ℕ} (hr : r < 3) :
    (bRd (U := U) Tb).duties (bcell d c j) r = (Finset.univ : Finset (Fin τ.nSub)).image Fin.val := by
  simp [bRd, isBar, hr]
theorem bRd_mem (Tb : ℕ → Dev nD → S10000x128.Idx → Elt F .f32) (d : Dev nD) (c : Fin τ.nSC) (j i : Fin τ.nSub) {r : ℕ} (hr : r < 3) :
    i.val ∈ (bRd (U := U) Tb).duties (bcell d c j) r := by
  rw [bRd_duties Tb d c j hr]; exact Finset.mem_image_of_mem _ (Finset.mem_univ i)
theorem bRd_expect (Tb : ℕ → Dev nD → S10000x128.Idx → Elt F .f32) (d : Dev nD) (c : Fin τ.nSC) (j : Fin τ.nSub) {r : ℕ} (hr : r < 3) :
    0 + grid5.bound 1 = (bRd (U := U) Tb).expect (bcell d c j) r := by
  unfold Rounds.Schedule.expect; rw [bRd_duties Tb d c j hr]
  show 0 + 16 = ∑ x ∈ (Finset.univ : Finset (Fin 16)).image Fin.val, 1
  rw [Finset.sum_const, Finset.card_image_of_injective _ Fin.val_injective]; rfl

/-- What the launch has a subcore owe for the barrier of call `q`: a unit on every subcore's cell of its SparseCore. -/
def oxV (d : Dev nD) (c : Fin τ.nSC) (q : Fin 3) : CellTallies nD τ sig (HIx 3) :=
  ∑ j : Fin (grid5.bound 1), tallyAt (bcell d c (j.castLE hsub5)) (some q) 1

theorem oxV_none (d : Dev nD) (c : Fin τ.nSC) (q : Fin 3) (g : GSem nD τ sig) : oxV d c q g none = 0 := by
  unfold oxV
  rw [Finset.sum_apply, Finsupp.finsetSum_apply]
  exact Finset.sum_eq_zero fun j _ => by rw [tallyAt_apply, if_neg (fun e => nomatch e.2)]

/-- Subcore `(c, i)`'s barrier kit for round `r` (call `q`): every subcore's cell invariant of its SparseCore and that each has
    reached round `r`, its own position at the origin of round `r`, its duty token in every subcore's round `r`, and the
    credit for the sixteen units of its own round. -/
def bkit (EB : Emb (URounds (GSem nD τ sig) ℕ) (MT nD τ sig (HIx 3) (Elt F) ℕ U ℕ)) (Tb : ℕ → Dev nD → S10000x128.Idx → Elt F .f32) (r : ℕ) (q : Fin 3) (d : Dev nD) (c : Fin τ.nSC) (i : Fin τ.nSub) : sProp 𝕄 :=
  iprop((∃ κ : GSem nD τ sig → ℕ, bigSep Finset.univ fun j : Fin (grid5.bound 1) =>
      cellInv EB (bRd (U := U) Tb) (κ (bcell d c (j.castLE hsub5))) (bcell d c (j.castLE hsub5)))
    ∗ (bigSep Finset.univ fun j : Fin (grid5.bound 1) => dutyTok EB (bcell d c (j.castLE hsub5)) r i.val)
    ∗ (bigSep Finset.univ fun j : Fin (grid5.bound 1) => reached (D := ℕ) EB (bcell d c (j.castLE hsub5)) r)
    ∗ atPos EB (bcell d c i) r (∅ : Finset ℕ) 0
    ∗ cred (tallyAt (bcell d c i) (some q) (grid5.bound 1)))

/-! ## What a subcore is handed, and what it hands back -/

section Tile

variable (d : Dev nD) (L : grid5.Coords)

/-- Handed to subcore `L`: a read share `qx` of the table (contents `Tx`), a share `qi` of row `wid` of the index table
    (contents `Ix`), its eighty result chunks outright (contents `fo`), and its stripe of the shared table outright. -/
def goT (qx qi : PosShare TreeShare) (Tx : S10000x128.Idx → Elt F .f32) (Ix : S32x10496.Idx → Elt F .i32) (fo : S10240x128.Idx → Elt F .f32) : sProp 𝕄 :=
  iprop((xLoc d ↦{qx} Tx) ∗ (iLoc d ↦[iRowSet L]{qi} Ix)
    ∗ (bigSep Finset.univ fun tb : Fin k5_t1_loop.trips × Fin 2 => oLoc d ↦[oChunkSet L tb.1 tb.2]{fullShare} fo)
    ∗ ∃ f, shLoc d (cV L) ↦[stripe (jL L)]{fullShare} f)

/-- Handed back: the same shares of the table and of the index row; the result chunks, written; its read share of the WHOLE
    shared table and what it kept of its own stripe, both holding the table. -/
def tdT (qx qi : PosShare TreeShare) (Tx : S10000x128.Idx → Elt F .f32) (Ix : S32x10496.Idx → Elt F .i32) : sProp 𝕄 :=
  iprop((xLoc d ↦{qx} Tx) ∗ (iLoc d ↦[iRowSet L]{qi} Ix)
    ∗ (bigSep Finset.univ fun tb : Fin k5_t1_loop.trips × Fin 2 => iprop(∃ f, oLoc d ↦[oChunkSet L tb.1 tb.2]{fullShare} f))
    ∗ (shLoc d (cV L) ↦{shTok (jV L)} Tx) ∗ (shLoc d (cV L) ↦[stripe (jL L)]{shKeep} Tx))

end Tile

end Cert.Proof.Tile2

end
-- ==== Proof.BodyLemmasC2.lean ====
/-
  Geometry and bookkeeping for the gather-sum kernel's subcore body: the arrays as the subcore addresses them, the slots of
  the row and result scratches, the windows of the index scratch; the stripes of the table partition it; what the barrier's
  duties hand over and what a round collects; what the stage copy and the index copy leave; the index windows name rows.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC2

noncomputable section

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

section Body
variable (d : Dev nD) (L : grid5.Coords)

abbrev thr : Thread nD τ := V d (cV L) (jV L)
abbrev g0sem : DmaSem sig := ((cc5_scratch4.slice (Rect.unit (s := S2) ![0] S1.size inb_S2_S1_0)).squeeze S_ squeezes_S1_S_).sem
abbrev g1sem : DmaSem sig := ((cc5_scratch4.slice (Rect.unit (s := S2) ![1] S1.size inb_S2_S1_1)).squeeze S_ squeezes_S1_S_).sem
abbrev o0sem : DmaSem sig := ((cc5_scratch5.slice (Rect.unit (s := S2) ![0] S1.size inb_S2_S1_0)).squeeze S_ squeezes_S1_S_).sem
abbrev o1sem : DmaSem sig := ((cc5_scratch5.slice (Rect.unit (s := S2) ![1] S1.size inb_S2_S1_1)).squeeze S_ squeezes_S1_S_).sem
abbrev cell (sm : DmaSem sig) : GSem nD τ sig := (V d (cV L) (jV L), .dma sm)

theorem pts_x (q : PosShare TreeShare) (f : S10000x128.Idx → Elt F .f32) :
    ((xV).view.loc (V d (cV L) (jV L)) ↦{q} f : sProp 𝕄) = xLoc d ↦{q} f := rfl
theorem pts_iRow (q : PosShare TreeShare) (f : S32x10496.Idx → Elt F .i32) :
    ((iRowK L).view.loc (V d (cV L) (jV L)) ↦[(iRowK L).view.set]{q} f : sProp 𝕄) = iLoc d ↦[iRowSet L]{q} f := rfl
theorem pts_shStripe (q : PosShare TreeShare) (f : S10000x128.Idx → Elt F .f32) :
    ((shStripeK L).view.loc (V d (cV L) (jV L)) ↦[(shStripeK L).view.set]{q} f : sProp 𝕄) = shLoc d (cV L) ↦[stripe (jL L)]{q} f := rfl
theorem pts_oChunk (t : Fin k5_t1_loop.trips) (b : Fin 2) (f : S10240x128.Idx → Elt F .f32) :
    ((oChunkK L t b).view.loc (V d (cV L) (jV L)) ↦[(oChunkK L t b).view.set]{fullShare} f : sProp 𝕄) = oLoc d ↦[oChunkSet L t b]{fullShare} f := rfl

theorem pts_ix (f : Buf (Elt F) ((V d (cV L) (jV L)).loc cc5_scratch0)) :
    ((ixV).view.loc (V d (cV L) (jV L)) ↦{fullShare} f : sProp 𝕄) = (V d (cV L) (jV L)).loc cc5_scratch0 ↦{fullShare} f := rfl
theorem pts_rw (f : Buf (Elt F) ((V d (cV L) (jV L)).loc cc5_scratch1)) :
    ((rwV).view.loc (V d (cV L) (jV L)) ↦{fullShare} f : sProp 𝕄) = (V d (cV L) (jV L)).loc cc5_scratch1 ↦{fullShare} f := rfl
theorem pts_ob (f : Buf (Elt F) ((V d (cV L) (jV L)).loc cc5_scratch2)) :
    ((obV).view.loc (V d (cV L) (jV L)) ↦{fullShare} f : sProp 𝕄) = (V d (cV L) (jV L)).loc cc5_scratch2 ↦{fullShare} f := rfl

abbrev rwK0 : Memref sig .scVector .vmem S128x128 .f32 :=
  ((rwV).slice (Rect.unit (s := S2x128x128) ![0, 0, 0] S1x128x128.size inb_S2x128x128_S1x128x128_0_0_0) (fun _ => rfl)).squeeze S128x128 squeezes_S1x128x128_S128x128
abbrev rwK1 : Memref sig .scVector .vmem S128x128 .f32 :=
  ((rwV).slice (Rect.unit (s := S2x128x128) ![1, 0, 0] S1x128x128.size inb_S2x128x128_S1x128x128_1_0_0) (fun _ => rfl)).squeeze S128x128 squeezes_S1x128x128_S128x128
abbrev obK0 : Memref sig .scVector .vmem S4x128 .f32 :=
  ((obV).slice (Rect.unit (s := S2x4x128) ![0, 0, 0] S1x4x128.size inb_S2x4x128_S1x4x128_0_0_0) (fun _ => rfl)).squeeze S4x128 squeezes_S1x4x128_S4x128
abbrev obK1 : Memref sig .scVector .vmem S4x128 .f32 :=
  ((obV).slice (Rect.unit (s := S2x4x128) ![1, 0, 0] S1x4x128.size inb_S2x4x128_S1x4x128_1_0_0) (fun _ => rfl)).squeeze S4x128 squeezes_S1x4x128_S4x128
/-- The `n`-th window of 128 entries of the index scratch. -/
abbrev ixWinK (n : ℕ) (h : ∀ a, (![128 * n] : Fin 1 → ℕ) a + S128.size a ≤ S10496.size a) : Memref sig .scVector .vmem S128 .i32 :=
  (ixV).slice (Rect.unit (s := S10496) ![128 * n] S128.size h) (fun _ => rfl)

/-! ## The stripes of the table -/

theorem k5_off2_eq : ∀ L : grid5.Coords, k5_off2 L = (![624 * (L 1).val, 0], ![if (L 1).val = 15 then 640 else 624, 128]) := by decide +kernel

theorem stripe_eq_set (n : Fin 16) : stripe n = (stripeRect (coordsV core0 (Fin.cast bound_one.symm n))).set := by
  unfold stripe; exact View.set_slice_whole _ _

theorem mem_stripe (n : Fin 16) (x : S10000x128.Idx) :
    x ∈ stripe n ↔ 624 * n.val ≤ (x 0 : ℕ) ∧ (x 0 : ℕ) < 624 * n.val + (if n.val = 15 then 640 else 624) := by
  have h1 : (coordsV core0 (Fin.cast bound_one.symm n)) 1 = Fin.cast bound_one.symm n := rfl
  rw [stripe_eq_set, stripeRect, Rect.mem_set_unit, k5_off2_eq, h1]
  constructor
  · intro h; have := h 0; simpa using this
  · intro h a
    match a with
    | 0 => simpa using h
    | 1 => exact ⟨Nat.zero_le _, by simpa using (x 1).isLt⟩

theorem stripes_disjoint : ∀ i ∈ (Finset.univ : Finset (Fin 16)), ∀ j ∈ (Finset.univ : Finset (Fin 16)), i ≠ j → Disjoint (stripe i) (stripe j) := by
  intro i _ j _ hij
  rw [Finset.disjoint_left]
  intro x hi hj
  rw [mem_stripe] at hi hj
  have : i.val ≠ j.val := fun h => hij (Fin.ext h)
  have hi' := i.isLt; have hj' := j.isLt
  split_ifs at hi hj <;> omega

theorem stripes_cover : (Finset.univ : Finset (Fin 16)).biUnion stripe = Finset.univ := by
  ext x
  simp only [Finset.mem_biUnion, Finset.mem_univ, true_and, iff_true]
  have hx : (x 0 : ℕ) < 10000 := (x 0).isLt
  by_cases h : (x 0 : ℕ) < 624 * 15
  · refine ⟨⟨(x 0 : ℕ) / 624, by omega⟩, (mem_stripe _ _).mpr ?_⟩
    have : ((x 0 : ℕ) / 624) ≠ 15 := by omega
    simp only [this, if_false]
    omega
  · exact ⟨⟨15, by decide⟩, (mem_stripe _ _).mpr (by simp; omega)⟩

/-! ## The barrier's payloads -/

theorem pays_intro (Tb : ℕ → Dev nD → S10000x128.Idx → Elt F .f32) (Tx : S10000x128.Idx → Elt F .f32) (hTb : Tb 0 d = Tx) :
    iprop(shLoc d (cV L) ↦[stripe (jL L)]{fullShare} Tx)
    ⊢ (iprop((shLoc d (cV L) ↦[stripe (jL L)]{shKeep} Tx)
        ∗ bigSep Finset.univ fun j : Fin (grid5.bound 1) => (bRd (U := U) Tb).payload (bcell d (cV L) (j.castLE hsub5)) 0 (jV L).val) : sProp 𝕄) := by
  have hp : ∀ j : Fin (grid5.bound 1), (bRd (U := U) Tb).payload (bcell d (cV L) (j.castLE hsub5)) 0 (jV L).val
      = (shLoc d (cV L) ↦[stripe (jL L)]{shTok (j.castLE hsub5)} Tx : sProp 𝕄) := fun j => by
    show bPay Tb (bcell d (cV L) (j.castLE hsub5)) 0 (jV L).val = _
    unfold bPay; dsimp only
    rw [dif_pos (show (jV L).val < 16 from (jV L).isLt), hTb]
    rfl
  rw [bigSep_congr fun j _ => hp j]
  exact Transfers.pointsTo_toks_split fullShare τ.nSub

theorem pays_elim (Tb : ℕ → Dev nD → S10000x128.Idx → Elt F .f32) (Tx : S10000x128.Idx → Elt F .f32) (hTb : Tb 0 d = Tx) :
    (bigSep ((bRd (U := U) Tb).duties (bcell d (cV L) (jV L)) 0 \ ∅) fun n => (bRd (U := U) Tb).payload (bcell d (cV L) (jV L)) 0 n)
    ⊢ (iprop(shLoc d (cV L) ↦{shTok (jV L)} Tx) : sProp 𝕄) := by
  rw [Finset.sdiff_empty, bRd_duties Tb d _ _ (by decide), SparseCore.bigSep_image_of_injOn (fun a _ b _ e => Fin.val_injective e)]
  have hp : ∀ i : Fin τ.nSub, (bRd (U := U) Tb).payload (bcell d (cV L) (jV L)) 0 i.val
      = (shLoc d (cV L) ↦[stripe (Fin.cast nSub_eq i)]{shTok (jV L)} Tx : sProp 𝕄) := fun i => by
    show bPay Tb (bcell d (cV L) (jV L)) 0 i.val = _
    unfold bPay; dsimp only
    rw [dif_pos (show i.val < 16 from i.isLt), hTb]
    rfl
  rw [bigSep_congr fun i _ => hp i]
  show (bigSep (Finset.univ : Finset (Fin 16)) fun i => (shLoc d (cV L) ↦[stripe i]{shTok (jV L)} Tx : sProp 𝕄)) ⊢ shLoc d (cV L) ↦[Finset.univ]{shTok (jV L)} Tx
  rw [← stripes_cover]
  exact Entails.of_eq (pointsTo_biUnion (ℓ := shLoc d (cV L)) (q := shTok (jV L)) (f := Tx) Finset.univ stripe stripes_disjoint).symm

/-! ## What the copies leave -/

/-- The stripe of the shared table after the stage copy holds the table's rows. -/
theorem stripe_copied (Tx fsh : S10000x128.Idx → Elt F .f32) :
    ∀ i ∈ (shStripeK L).view.set,
      (shStripeK L).view.writes (Elt F) fsh [⟨Rect.whole { rank := 2, size := (k5_off2 L).2 }, ReadAs.same.apply ((xStripeK L).view.read (Elt F) Tx)⟩] i = Tx i := by
  intro i hi
  obtain ⟨y, -, rfl⟩ := Finset.mem_map.mp hi
  have h := View.read_writes_cons_emb (Val := Elt F) (shStripeK L).view fsh (Rect.whole { rank := 2, size := (k5_off2 L).2 })
    (ReadAs.same.apply ((xStripeK L).view.read (Elt F) Tx)) [] y
  rw [Rect.emb_whole_apply, View.read_apply, ReadAs.apply_same, View.read_apply] at h
  simp only [cast_eq] at h
  exact h

/-- The index scratch after the copy of row `wid` holds that row. -/
theorem idx_copied (Ix : S32x10496.Idx → Elt F .i32) (f0 : S10496.Idx → Elt F .i32) :
    ∀ i ∈ (Finset.univ : Finset S10496.Idx),
      View.write (Elt F) (ixV).view f0 (ReadAs.same.apply ((iRowK L).view.read (Elt F) Ix)) Finset.univ i = (iRowK L).view.read (Elt F) Ix i := by
  intro i _
  show View.write (Elt F) (View.whole cc5_scratch0) f0 _ Finset.univ i = _
  rw [View.write_whole_univ]

/-- Every window of the index scratch names rows of the table. -/
theorem idx_inb (Ix : S32x10496.Idx → Elt F .i32) (hin : ∀ x, ((iRowK L).view.read (Elt F) Ix x).toNat < 10000)
    (r : Rect S10496) (hr : ∀ a, r.stride a = 1) (x : r.shape.Idx) :
    (((ixV).slice r hr).view.read (Elt F) ((iRowK L).view.read (Elt F) Ix) x).toNat < S10000x128.size (gathers_S10000x128_S128x128).axis := by
  rw [View.read_apply]
  exact hin _

end Body
end Cert.Proof.Tile2
end
-- ==== Proof.ScBarPay.lean ====
/-
  What the launch's barrier schedule hands a subcore's task, call by call.

  Round q of tile (c, j)'s barrier cell carries, as the duty named n, tile j's read share of the rows tile n stages
  into the call's shared table, at call q's table.  The rows a tile stages (624 of them from row 624·n, the last tile
  640) are the stripe the kernel's own offsets name, so: every sibling names the tile as a duty of the round, each duty
  is one unit, a round expects sixteen units, a tile's staged stripe owned outright splits into what it keeps and what
  its sixteen duties hand over, and what a tile's own round collects is its read share of the whole shared table.
-/
import proofs.«205366_g3083786518796_cont_9to1_852_38_alg».proof.Proof.ScPay
import proofs.«205366_g3083786518796_cont_9to1_852_38_alg».proof.Proof.BodyLemmas
import proofs.«205366_g3083786518796_cont_9to1_852_38_alg».proof.Proof.BodyLemmasC1
import proofs.«205366_g3083786518796_cont_9to1_852_38_alg».proof.Proof.BodyLemmasC2

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

variable (Tb : Fin 3 → Dev nD → S10000x128.Idx → F .f32)

/-! ## Call 0: round 0 of the barrier cells, over the call's own shared table -/

section Call0

/-- The rows a subcore stages are the stripe the kernel's offsets name. -/
theorem stripe0_eq (n : Fin 16) : Cert.Proof.Tile.stripe n = (stageRect n).set := by
  ext x
  rw [Cert.Proof.Tile.mem_stripe, stageRect, Rect.mem_set_unit]
  unfold nStage
  constructor
  · intro h a
    match a with
    | 0 => simpa using h
    | 1 => exact ⟨Nat.zero_le _, by simpa using (x 1).isLt⟩
  · intro h; have := h 0; simpa using this

variable (d : Dev nD) (L : grid0.Coords)

theorem bar0_mem (j : Fin (grid0.bound 1)) : (Cert.Proof.Tile.jV L).val ∈ (bRd (F := F) Tb).duties (bcell d (Cert.Proof.Tile.cV L) (j.castLE hsub0)) 0 := by
  show (Cert.Proof.Tile.jV L).val ∈ (if isBar (bcell d (Cert.Proof.Tile.cV L) (j.castLE hsub0)) ∧ 0 < 3 then (Finset.univ : Finset (Fin τ.nSub)).image Fin.val else ∅)
  rw [if_pos ⟨isBar_bcell _ _ _, by decide⟩]
  exact Finset.mem_image_of_mem _ (Finset.mem_univ _)

theorem bar0_amt (j : Fin (grid0.bound 1)) : (bRd (F := F) Tb).amount (bcell d (Cert.Proof.Tile.cV L) (j.castLE hsub0)) 0 (Cert.Proof.Tile.jV L).val = 1 := rfl

theorem bar0_duties (c : Fin τ.nSC) (j : Fin τ.nSub) :
    (bRd (F := F) Tb).duties (bcell d c j) 0 = (Finset.univ : Finset (Fin τ.nSub)).image Fin.val := by
  show (if isBar (bcell d c j) ∧ 0 < 3 then (Finset.univ : Finset (Fin τ.nSub)).image Fin.val else ∅) = _
  rw [if_pos ⟨isBar_bcell _ _ _, by decide⟩]

theorem bar0_expect : 0 + grid0.bound 1 = (bRd (F := F) Tb).expect (bcell d (Cert.Proof.Tile.cV L) (Cert.Proof.Tile.jV L)) 0 := by
  unfold Rounds.Schedule.expect; rw [bar0_duties Tb d]
  show 0 + 16 = ∑ x ∈ (Finset.univ : Finset (Fin 16)).image Fin.val, 1
  rw [Finset.sum_const, Finset.card_image_of_injective _ Fin.val_injective]; rfl

/-- A subcore's staged stripe, owned outright at the table's rows, is what it keeps and what its sixteen duties of the
    round hand over. -/
theorem bar0_pays_intro (Tx : S10000x128.Idx → F .f32) (hTb : Tb 0 d = Tx) :
    iprop(Cert.Proof.Tile.shLoc d (Cert.Proof.Tile.cV L) ↦[Cert.Proof.Tile.stripe (Cert.Proof.Tile.jL L)]{fullShare} Tx)
    ⊢ (iprop((Cert.Proof.Tile.shLoc d (Cert.Proof.Tile.cV L) ↦[Cert.Proof.Tile.stripe (Cert.Proof.Tile.jL L)]{Cert.Proof.Tile.shKeep} Tx)
        ∗ bigSep Finset.univ fun j : Fin (grid0.bound 1) => (bRd (F := F) Tb).payload (bcell d (Cert.Proof.Tile.cV L) (j.castLE hsub0)) 0 (Cert.Proof.Tile.jV L).val) : sProp 𝕄) := by
  have hp : ∀ j : Fin (grid0.bound 1), (bRd (F := F) Tb).payload (bcell d (Cert.Proof.Tile.cV L) (j.castLE hsub0)) 0 (Cert.Proof.Tile.jV L).val
      = (Cert.Proof.Tile.shLoc d (Cert.Proof.Tile.cV L) ↦[Cert.Proof.Tile.stripe (Cert.Proof.Tile.jL L)]{Cert.Proof.Tile.shTok (j.castLE hsub0)} Tx : sProp 𝕄) := fun j => by
    show barPay (sh0 d) (fun _ n => (stageRect n).set) (wrS0 d) (Tb 0 d) (Cert.Proof.Tile.cV L) (j.castLE hsub0) (Cert.Proof.Tile.jV L).val = _
    unfold barPay
    rw [dif_pos (show (Cert.Proof.Tile.jV L).val < 16 from (Cert.Proof.Tile.jV L).isLt), hTb, stripe0_eq]
    rfl
  rw [bigSep_congr fun j _ => hp j]
  exact Transfers.pointsTo_toks_split fullShare τ.nSub

/-- What a subcore's own round collects: its read share of the whole shared table, at the table's rows. -/
theorem bar0_pays_elim (Tx : S10000x128.Idx → F .f32) (hTb : Tb 0 d = Tx) :
    (bigSep ((bRd (F := F) Tb).duties (bcell d (Cert.Proof.Tile.cV L) (Cert.Proof.Tile.jV L)) 0 \ ∅) fun n => (bRd (F := F) Tb).payload (bcell d (Cert.Proof.Tile.cV L) (Cert.Proof.Tile.jV L)) 0 n)
    ⊢ (iprop(Cert.Proof.Tile.shLoc d (Cert.Proof.Tile.cV L) ↦{Cert.Proof.Tile.shTok (Cert.Proof.Tile.jV L)} Tx) : sProp 𝕄) := by
  rw [Finset.sdiff_empty, bar0_duties Tb d, SparseCore.bigSep_image_of_injOn (fun a _ b _ e => Fin.val_injective e)]
  have hp : ∀ i : Fin τ.nSub, (bRd (F := F) Tb).payload (bcell d (Cert.Proof.Tile.cV L) (Cert.Proof.Tile.jV L)) 0 i.val
      = (Cert.Proof.Tile.shLoc d (Cert.Proof.Tile.cV L) ↦[Cert.Proof.Tile.stripe (Fin.cast Cert.Proof.Tile.nSub_eq i)]{Cert.Proof.Tile.shTok (Cert.Proof.Tile.jV L)} Tx : sProp 𝕄) := fun i => by
    show barPay (sh0 d) (fun _ n => (stageRect n).set) (wrS0 d) (Tb 0 d) (Cert.Proof.Tile.cV L) (Cert.Proof.Tile.jV L) i.val = _
    unfold barPay
    rw [dif_pos (show i.val < 16 from i.isLt), hTb, stripe0_eq]
    rfl
  rw [bigSep_congr fun i _ => hp i]
  show (bigSep (Finset.univ : Finset (Fin 16)) fun i => (Cert.Proof.Tile.shLoc d (Cert.Proof.Tile.cV L) ↦[Cert.Proof.Tile.stripe i]{Cert.Proof.Tile.shTok (Cert.Proof.Tile.jV L)} Tx : sProp 𝕄))
    ⊢ Cert.Proof.Tile.shLoc d (Cert.Proof.Tile.cV L) ↦[Finset.univ]{Cert.Proof.Tile.shTok (Cert.Proof.Tile.jV L)} Tx
  rw [← Cert.Proof.Tile.stripes_cover, pointsTo_biUnion Finset.univ (ℓ := Cert.Proof.Tile.shLoc d (Cert.Proof.Tile.cV L)) Cert.Proof.Tile.stripe Cert.Proof.Tile.stripes_disjoint]

end Call0

/-! ## Call 1: round 1 of the barrier cells, over the call's own shared table -/

section Call1

/-- The rows a subcore stages are the stripe the kernel's offsets name. -/
theorem stripe1_eq (n : Fin 16) : Cert.Proof.Tile1.stripe n = (stageRect n).set := by
  ext x
  rw [Cert.Proof.Tile1.mem_stripe, stageRect, Rect.mem_set_unit]
  unfold nStage
  constructor
  · intro h a
    match a with
    | 0 => simpa using h
    | 1 => exact ⟨Nat.zero_le _, by simpa using (x 1).isLt⟩
  · intro h; have := h 0; simpa using this

variable (d : Dev nD) (L : grid3.Coords)

theorem bar1_mem (j : Fin (grid3.bound 1)) : (Cert.Proof.Tile1.jV L).val ∈ (bRd (F := F) Tb).duties (bcell d (Cert.Proof.Tile1.cV L) (j.castLE hsub3)) 1 := by
  show (Cert.Proof.Tile1.jV L).val ∈ (if isBar (bcell d (Cert.Proof.Tile1.cV L) (j.castLE hsub3)) ∧ 1 < 3 then (Finset.univ : Finset (Fin τ.nSub)).image Fin.val else ∅)
  rw [if_pos ⟨isBar_bcell _ _ _, by decide⟩]
  exact Finset.mem_image_of_mem _ (Finset.mem_univ _)

theorem bar1_amt (j : Fin (grid3.bound 1)) : (bRd (F := F) Tb).amount (bcell d (Cert.Proof.Tile1.cV L) (j.castLE hsub3)) 1 (Cert.Proof.Tile1.jV L).val = 1 := rfl

theorem bar1_duties (c : Fin τ.nSC) (j : Fin τ.nSub) :
    (bRd (F := F) Tb).duties (bcell d c j) 1 = (Finset.univ : Finset (Fin τ.nSub)).image Fin.val := by
  show (if isBar (bcell d c j) ∧ 1 < 3 then (Finset.univ : Finset (Fin τ.nSub)).image Fin.val else ∅) = _
  rw [if_pos ⟨isBar_bcell _ _ _, by decide⟩]

theorem bar1_expect : 0 + grid3.bound 1 = (bRd (F := F) Tb).expect (bcell d (Cert.Proof.Tile1.cV L) (Cert.Proof.Tile1.jV L)) 1 := by
  unfold Rounds.Schedule.expect; rw [bar1_duties Tb d]
  show 0 + 16 = ∑ x ∈ (Finset.univ : Finset (Fin 16)).image Fin.val, 1
  rw [Finset.sum_const, Finset.card_image_of_injective _ Fin.val_injective]; rfl

/-- A subcore's staged stripe, owned outright at the table's rows, is what it keeps and what its sixteen duties of the
    round hand over. -/
theorem bar1_pays_intro (Tx : S10000x128.Idx → F .f32) (hTb : Tb 1 d = Tx) :
    iprop(Cert.Proof.Tile1.shLoc d (Cert.Proof.Tile1.cV L) ↦[Cert.Proof.Tile1.stripe (Cert.Proof.Tile1.jL L)]{fullShare} Tx)
    ⊢ (iprop((Cert.Proof.Tile1.shLoc d (Cert.Proof.Tile1.cV L) ↦[Cert.Proof.Tile1.stripe (Cert.Proof.Tile1.jL L)]{Cert.Proof.Tile1.shKeep} Tx)
        ∗ bigSep Finset.univ fun j : Fin (grid3.bound 1) => (bRd (F := F) Tb).payload (bcell d (Cert.Proof.Tile1.cV L) (j.castLE hsub3)) 1 (Cert.Proof.Tile1.jV L).val) : sProp 𝕄) := by
  have hp : ∀ j : Fin (grid3.bound 1), (bRd (F := F) Tb).payload (bcell d (Cert.Proof.Tile1.cV L) (j.castLE hsub3)) 1 (Cert.Proof.Tile1.jV L).val
      = (Cert.Proof.Tile1.shLoc d (Cert.Proof.Tile1.cV L) ↦[Cert.Proof.Tile1.stripe (Cert.Proof.Tile1.jL L)]{Cert.Proof.Tile1.shTok (j.castLE hsub3)} Tx : sProp 𝕄) := fun j => by
    show barPay (sh1 d) (fun _ n => (stageRect n).set) (wrS1 d) (Tb 1 d) (Cert.Proof.Tile1.cV L) (j.castLE hsub3) (Cert.Proof.Tile1.jV L).val = _
    unfold barPay
    rw [dif_pos (show (Cert.Proof.Tile1.jV L).val < 16 from (Cert.Proof.Tile1.jV L).isLt), hTb, stripe1_eq]
    rfl
  rw [bigSep_congr fun j _ => hp j]
  exact Transfers.pointsTo_toks_split fullShare τ.nSub

/-- What a subcore's own round collects: its read share of the whole shared table, at the table's rows. -/
theorem bar1_pays_elim (Tx : S10000x128.Idx → F .f32) (hTb : Tb 1 d = Tx) :
    (bigSep ((bRd (F := F) Tb).duties (bcell d (Cert.Proof.Tile1.cV L) (Cert.Proof.Tile1.jV L)) 1 \ ∅) fun n => (bRd (F := F) Tb).payload (bcell d (Cert.Proof.Tile1.cV L) (Cert.Proof.Tile1.jV L)) 1 n)
    ⊢ (iprop(Cert.Proof.Tile1.shLoc d (Cert.Proof.Tile1.cV L) ↦{Cert.Proof.Tile1.shTok (Cert.Proof.Tile1.jV L)} Tx) : sProp 𝕄) := by
  rw [Finset.sdiff_empty, bar1_duties Tb d, SparseCore.bigSep_image_of_injOn (fun a _ b _ e => Fin.val_injective e)]
  have hp : ∀ i : Fin τ.nSub, (bRd (F := F) Tb).payload (bcell d (Cert.Proof.Tile1.cV L) (Cert.Proof.Tile1.jV L)) 1 i.val
      = (Cert.Proof.Tile1.shLoc d (Cert.Proof.Tile1.cV L) ↦[Cert.Proof.Tile1.stripe (Fin.cast Cert.Proof.Tile1.nSub_eq i)]{Cert.Proof.Tile1.shTok (Cert.Proof.Tile1.jV L)} Tx : sProp 𝕄) := fun i => by
    show barPay (sh1 d) (fun _ n => (stageRect n).set) (wrS1 d) (Tb 1 d) (Cert.Proof.Tile1.cV L) (Cert.Proof.Tile1.jV L) i.val = _
    unfold barPay
    rw [dif_pos (show i.val < 16 from i.isLt), hTb, stripe1_eq]
    rfl
  rw [bigSep_congr fun i _ => hp i]
  show (bigSep (Finset.univ : Finset (Fin 16)) fun i => (Cert.Proof.Tile1.shLoc d (Cert.Proof.Tile1.cV L) ↦[Cert.Proof.Tile1.stripe i]{Cert.Proof.Tile1.shTok (Cert.Proof.Tile1.jV L)} Tx : sProp 𝕄))
    ⊢ Cert.Proof.Tile1.shLoc d (Cert.Proof.Tile1.cV L) ↦[Finset.univ]{Cert.Proof.Tile1.shTok (Cert.Proof.Tile1.jV L)} Tx
  rw [← Cert.Proof.Tile1.stripes_cover, pointsTo_biUnion Finset.univ (ℓ := Cert.Proof.Tile1.shLoc d (Cert.Proof.Tile1.cV L)) Cert.Proof.Tile1.stripe Cert.Proof.Tile1.stripes_disjoint]

end Call1

/-! ## Call 2: round 2 of the barrier cells, over the call's own shared table -/

section Call2

/-- The rows a subcore stages are the stripe the kernel's offsets name. -/
theorem stripe2_eq (n : Fin 16) : Cert.Proof.Tile2.stripe n = (stageRect n).set := by
  ext x
  rw [Cert.Proof.Tile2.mem_stripe, stageRect, Rect.mem_set_unit]
  unfold nStage
  constructor
  · intro h a
    match a with
    | 0 => simpa using h
    | 1 => exact ⟨Nat.zero_le _, by simpa using (x 1).isLt⟩
  · intro h; have := h 0; simpa using this

variable (d : Dev nD) (L : grid5.Coords)

theorem bar2_mem (j : Fin (grid5.bound 1)) : (Cert.Proof.Tile2.jV L).val ∈ (bRd (F := F) Tb).duties (bcell d (Cert.Proof.Tile2.cV L) (j.castLE hsub5)) 2 := by
  show (Cert.Proof.Tile2.jV L).val ∈ (if isBar (bcell d (Cert.Proof.Tile2.cV L) (j.castLE hsub5)) ∧ 2 < 3 then (Finset.univ : Finset (Fin τ.nSub)).image Fin.val else ∅)
  rw [if_pos ⟨isBar_bcell _ _ _, by decide⟩]
  exact Finset.mem_image_of_mem _ (Finset.mem_univ _)

theorem bar2_amt (j : Fin (grid5.bound 1)) : (bRd (F := F) Tb).amount (bcell d (Cert.Proof.Tile2.cV L) (j.castLE hsub5)) 2 (Cert.Proof.Tile2.jV L).val = 1 := rfl

theorem bar2_duties (c : Fin τ.nSC) (j : Fin τ.nSub) :
    (bRd (F := F) Tb).duties (bcell d c j) 2 = (Finset.univ : Finset (Fin τ.nSub)).image Fin.val := by
  show (if isBar (bcell d c j) ∧ 2 < 3 then (Finset.univ : Finset (Fin τ.nSub)).image Fin.val else ∅) = _
  rw [if_pos ⟨isBar_bcell _ _ _, by decide⟩]

theorem bar2_expect : 0 + grid5.bound 1 = (bRd (F := F) Tb).expect (bcell d (Cert.Proof.Tile2.cV L) (Cert.Proof.Tile2.jV L)) 2 := by
  unfold Rounds.Schedule.expect; rw [bar2_duties Tb d]
  show 0 + 16 = ∑ x ∈ (Finset.univ : Finset (Fin 16)).image Fin.val, 1
  rw [Finset.sum_const, Finset.card_image_of_injective _ Fin.val_injective]; rfl

/-- A subcore's staged stripe, owned outright at the table's rows, is what it keeps and what its sixteen duties of the
    round hand over. -/
theorem bar2_pays_intro (Tx : S10000x128.Idx → F .f32) (hTb : Tb 2 d = Tx) :
    iprop(Cert.Proof.Tile2.shLoc d (Cert.Proof.Tile2.cV L) ↦[Cert.Proof.Tile2.stripe (Cert.Proof.Tile2.jL L)]{fullShare} Tx)
    ⊢ (iprop((Cert.Proof.Tile2.shLoc d (Cert.Proof.Tile2.cV L) ↦[Cert.Proof.Tile2.stripe (Cert.Proof.Tile2.jL L)]{Cert.Proof.Tile2.shKeep} Tx)
        ∗ bigSep Finset.univ fun j : Fin (grid5.bound 1) => (bRd (F := F) Tb).payload (bcell d (Cert.Proof.Tile2.cV L) (j.castLE hsub5)) 2 (Cert.Proof.Tile2.jV L).val) : sProp 𝕄) := by
  have hp : ∀ j : Fin (grid5.bound 1), (bRd (F := F) Tb).payload (bcell d (Cert.Proof.Tile2.cV L) (j.castLE hsub5)) 2 (Cert.Proof.Tile2.jV L).val
      = (Cert.Proof.Tile2.shLoc d (Cert.Proof.Tile2.cV L) ↦[Cert.Proof.Tile2.stripe (Cert.Proof.Tile2.jL L)]{Cert.Proof.Tile2.shTok (j.castLE hsub5)} Tx : sProp 𝕄) := fun j => by
    show barPay (sh2 d) (fun _ n => (stageRect n).set) (wrS2 d) (Tb 2 d) (Cert.Proof.Tile2.cV L) (j.castLE hsub5) (Cert.Proof.Tile2.jV L).val = _
    unfold barPay
    rw [dif_pos (show (Cert.Proof.Tile2.jV L).val < 16 from (Cert.Proof.Tile2.jV L).isLt), hTb, stripe2_eq]
    rfl
  rw [bigSep_congr fun j _ => hp j]
  exact Transfers.pointsTo_toks_split fullShare τ.nSub

/-- What a subcore's own round collects: its read share of the whole shared table, at the table's rows. -/
theorem bar2_pays_elim (Tx : S10000x128.Idx → F .f32) (hTb : Tb 2 d = Tx) :
    (bigSep ((bRd (F := F) Tb).duties (bcell d (Cert.Proof.Tile2.cV L) (Cert.Proof.Tile2.jV L)) 2 \ ∅) fun n => (bRd (F := F) Tb).payload (bcell d (Cert.Proof.Tile2.cV L) (Cert.Proof.Tile2.jV L)) 2 n)
    ⊢ (iprop(Cert.Proof.Tile2.shLoc d (Cert.Proof.Tile2.cV L) ↦{Cert.Proof.Tile2.shTok (Cert.Proof.Tile2.jV L)} Tx) : sProp 𝕄) := by
  rw [Finset.sdiff_empty, bar2_duties Tb d, SparseCore.bigSep_image_of_injOn (fun a _ b _ e => Fin.val_injective e)]
  have hp : ∀ i : Fin τ.nSub, (bRd (F := F) Tb).payload (bcell d (Cert.Proof.Tile2.cV L) (Cert.Proof.Tile2.jV L)) 2 i.val
      = (Cert.Proof.Tile2.shLoc d (Cert.Proof.Tile2.cV L) ↦[Cert.Proof.Tile2.stripe (Fin.cast Cert.Proof.Tile2.nSub_eq i)]{Cert.Proof.Tile2.shTok (Cert.Proof.Tile2.jV L)} Tx : sProp 𝕄) := fun i => by
    show barPay (sh2 d) (fun _ n => (stageRect n).set) (wrS2 d) (Tb 2 d) (Cert.Proof.Tile2.cV L) (Cert.Proof.Tile2.jV L) i.val = _
    unfold barPay
    rw [dif_pos (show i.val < 16 from i.isLt), hTb, stripe2_eq]
    rfl
  rw [bigSep_congr fun i _ => hp i]
  show (bigSep (Finset.univ : Finset (Fin 16)) fun i => (Cert.Proof.Tile2.shLoc d (Cert.Proof.Tile2.cV L) ↦[Cert.Proof.Tile2.stripe i]{Cert.Proof.Tile2.shTok (Cert.Proof.Tile2.jV L)} Tx : sProp 𝕄))
    ⊢ Cert.Proof.Tile2.shLoc d (Cert.Proof.Tile2.cV L) ↦[Finset.univ]{Cert.Proof.Tile2.shTok (Cert.Proof.Tile2.jV L)} Tx
  rw [← Cert.Proof.Tile2.stripes_cover, pointsTo_biUnion Finset.univ (ℓ := Cert.Proof.Tile2.shLoc d (Cert.Proof.Tile2.cV L)) Cert.Proof.Tile2.stripe Cert.Proof.Tile2.stripes_disjoint]

end Call2

end Cert.Proof.KI

end
-- ==== Proof.ScTileParts.lean ====
/-
  The parts of a vector subcore's task obligation that do not depend on the kernel's body: the reduction of the launch's
  obligation to a statement about the body on one subcore; the tile's scoped storage split into what the task uses and
  the rest; the launch's barrier kit in the body's indexing; the task's operands cut the way the body takes them (the
  index table's row out of the whole table, the output rows as the eighty chunks, the staged rows as the stripe) and
  the results put back.
-/
import proofs.«205366_g3083786518796_cont_9to1_852_38_alg».proof.Proof.ScPay
import proofs.«205366_g3083786518796_cont_9to1_852_38_alg».proof.Proof.BodyDefs
import proofs.«205366_g3083786518796_cont_9to1_852_38_alg».proof.Proof.BodyLemmas
import proofs.«205366_g3083786518796_cont_9to1_852_38_alg».proof.Proof.BodyOwn
import proofs.«205366_g3083786518796_cont_9to1_852_38_alg».proof.Proof.BodyCover
import proofs.«205366_g3083786518796_cont_9to1_852_38_alg».proof.Proof.ScBarPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-! ## Call 0 -/

/-- The subcore's coordinates as the launch payloads index them. -/
abbrev cL0 (L : grid0.Coords) : Fin 2 := Fin.cast (by decide) (L 0)
abbrev jL0 (L : grid0.Coords) : Fin 16 := Fin.cast (by decide) (L 1)

theorem defs₀_vector0 (c : Fin τ.nSC) (s : Fin τ.nSub) :
    defs₀ (F := F) (.scVector c s) 0 ()
      = SparseCore.onTile hcore0 hsub0 (fun c s => cc0__sc_gather_sum (Cert.Proof.Tile.coordsV c s)
          (Memref.whole main_arg0_scv) (Memref.isWhole_whole _) (Memref.whole main_v7_scv) (Memref.isWhole_whole _)
          (Memref.whole main_v8_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scoped0 cc0_scoped1) ⟨⟩ c s := rfl

/-- THE BODY'S STATEMENT for call 0, over the launch's payloads: the kernel on vector subcore `L`, from its barrier kit, its
    task's operands, its scoped storage and what it owes, to the task's results. -/
def BodySpec0 : Prop :=
  ∀ (d : Dev nD) (L : grid0.Coords) (O : CellTallies nD τ sig (HIx 3)) (W : Waits sig (HIx 3)), (∀ g, O g none = 0) →
    (∀ g ι, 0 < O g ι → 8 * (0 : Fin 3).val + 6 ≤ (K (F := F)).lev g ι) →
    iprop(levAts (K (F := F)).L (K (F := F)).lev ∗ bkit (F := F) Tb 0 d (Cert.Proof.Tile.cV L) (Cert.Proof.Tile.jV L)
        ∗ goQ Tb Ib 0 d (cL0 L) (jL0 L)
        ∗ scopedBufs (V d (Cert.Proof.Tile.cV L) (Cert.Proof.Tile.jV L)) ∗ scopedSems0 (V d (Cert.Proof.Tile.cV L) (Cert.Proof.Tile.jV L))
        ∗ owes (V d (Cert.Proof.Tile.cV L) (Cert.Proof.Tile.jV L)) (O + oxV 0 d (Cert.Proof.Tile.cV L)) W)
      ⊢ wp frame (wpE (defs₀ (F := F)) 𝒱₀ (V d (Cert.Proof.Tile.cV L) (Cert.Proof.Tile.jV L)) none) Set.univ
          (cc0__sc_gather_sum L (Memref.whole main_arg0_scv) (Memref.isWhole_whole _) (Memref.whole main_v7_scv) (Memref.isWhole_whole _)
            (Memref.whole main_v8_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scoped0 cc0_scoped1)
          fun _ => iprop(tdQ Tb Ib 0 d (cL0 L) (jL0 L)
            ∗ scopedBufs (V d (Cert.Proof.Tile.cV L) (Cert.Proof.Tile.jV L)) ∗ scopedSems0 (V d (Cert.Proof.Tile.cV L) (Cert.Proof.Tile.jV L))
            ∗ ∃ W', ⌜∀ p ∈ W', p ∈ W ∨ p.2 = none ∨ p.2 = some (0 : Fin 3)⌝ ∗ owes (V d (Cert.Proof.Tile.cV L) (Cert.Proof.Tile.jV L)) O W')

set_option maxRecDepth 16384 in
/-- The launch's obligation for call 0 from the body's statement. -/
theorem tileObl0_of_body (hbody : BodySpec0 (F := F) Tb Ib) : (K (F := F)).TileObl (D (F := F)) 𝒱 (P (F := F) Tb Ib) v₀ 0 := by
  intro d c i O W hO hOlev _
  have hci : ((K (F := F)).core 0 c).val < grid0.bound 0 ∧ ((K (F := F)).sub 0 i).val < grid0.bound 1 := ⟨c.isLt, i.isLt⟩
  rw [show (P (F := F) Tb Ib).ox 0 (V d ((K (F := F)).core 0 c) ((K (F := F)).sub 0 i)) = oxV 0 d ((K (F := F)).core 0 c) from rfl,
    show (P (F := F) Tb Ib).x 0 (V d ((K (F := F)).core 0 c) ((K (F := F)).sub 0 i)) = bkit (F := F) Tb 0 d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact hbody d (Cert.Proof.Tile.coordsV ⟨_, hci.1⟩ ⟨_, hci.2⟩) O W hO hOlev

/-! ## The scoped storage: the three scratches and six semaphores the task uses, and the rest -/

/-- A vector subcore's scoped buffers and semaphores, as the launch hands them: the task's three scratches at some
    contents, its six semaphores at zero, and the rest of each. -/
theorem scoped_split (d : Dev nD) (L : grid0.Coords) :
    (iprop(scopedBufs (V d (Cert.Proof.Tile.cV L) (Cert.Proof.Tile.jV L)) ∗ scopedSems0 (V d (Cert.Proof.Tile.cV L) (Cert.Proof.Tile.jV L))) : sProp 𝕄)
      = iprop(ownBufs (V d (Cert.Proof.Tile.cV L) (Cert.Proof.Tile.jV L)) ∗ ownSems0 (V d (Cert.Proof.Tile.cV L) (Cert.Proof.Tile.jV L))) := by
  rw [(K (F := F)).scopedBufs_V facts d (Cert.Proof.Tile.cV L) (Cert.Proof.Tile.jV L),
    SparseCore.Cfg.scopedSems0_V (Val := Elt F) d (Cert.Proof.Tile.cV L) (Cert.Proof.Tile.jV L)]

/-! ## The barrier kit, in the body's indexing -/

/-- The barrier kit as the kernel's body takes it, over any schedule: every cell's invariant, the tile's duty token in
    every cell's round, that every cell has reached the round, the tile's own position, and the credit for its round. -/
def kitR (Rd : Rounds.Schedule (GSem nD τ sig) ℕ 𝕄) (r : ℕ) (q : Fin 3) (d : Dev nD) (c : Fin τ.nSC) (i : Fin τ.nSub) : sProp 𝕄 :=
  iprop((∃ κ : GSem nD τ sig → ℕ, bigSep Finset.univ fun j : Fin (grid0.bound 1) =>
      cellInv EB Rd (κ (bcell d c (j.castLE hsub0))) (bcell d c (j.castLE hsub0)))
    ∗ (bigSep Finset.univ fun j : Fin (grid0.bound 1) => dutyTok EB (bcell d c (j.castLE hsub0)) r i.val)
    ∗ (bigSep Finset.univ fun j : Fin (grid0.bound 1) => reached (D := ℕ) EB (bcell d c (j.castLE hsub0)) r)
    ∗ atPos EB (bcell d c i) r (∅ : Finset ℕ) 0
    ∗ cred (tallyAt (bcell d c i) (some q) (grid0.bound 1)))

/-- The launch's kit for call 0 with the tile's position and the sixteen "reached" its operands carry is the body's kit. -/
theorem kit_conv0 (d : Dev nD) (L : grid0.Coords) :
    iprop(bkit (F := F) Tb 0 d (Cert.Proof.Tile.cV L) (Cert.Proof.Tile.jV L)
        ∗ atPos EB (bcell d ((cL0 L).castLE (by decide)) ((jL0 L).castLE (by decide))) 0 ∅ 0
        ∗ bigSep Finset.univ fun j : Fin 16 => reached EB (bcell d ((cL0 L).castLE (by decide)) (j.castLE (by decide))) 0)
      ⊢ kitR (F := F) (bRd (F := F) Tb) 0 0 d (Cert.Proof.Tile.cV L) (Cert.Proof.Tile.jV L) := by
  unfold bkit kitR
  iintro ⟨⟨Hinv, Htok, Hcred⟩, Hat, Hre⟩
  isplitl [Hinv]; · iexact Hinv
  isplitl [Htok]; · iexact Htok
  isplitl [Hre]; · iexact Hre
  isplitl [Hat]; · iexact Hat
  iexact Hcred

/-! ## The task's operands, cut the way the body takes them, and its results put back -/

/-- Tile `(c, i)`'s worker number is the body's. -/
theorem wid_eq (L : grid0.Coords) : (wid (cL0 L) (jL0 L)).val = 2 * (L 1).val + (L 0).val := rfl

/-- THE OPERANDS: the table's token, the index table's token (the worker's row out of it, the rest kept), the worker's
    output rows as its eighty chunks, and the staged rows as the stripe. -/
theorem go_conv0 (d : Dev nD) (L : grid0.Coords) (q : PosShare TreeShare) (Tx : S10000x128.Idx → F .f32) (Ix : S32x10496.Idx → BitVec 32)
    (fo : S10240x128.Idx → F .f32) :
    iprop((tab0 d ↦{q} wrT0 d Tx) ∗ (idxLoc d ↦{q} wrI d Ix) ∗ (out0 d ↦[(outRect (wid (cL0 L) (jL0 L))).set]{fullShare} fo)
        ∗ (∃ fs, sh0 d ((cL0 L).castLE (by decide)) ↦[(stageRect (jL0 L)).set]{fullShare} fs))
      ⊢ (iprop(Cert.Proof.Tile.goT d L q q Tx Ix fo
          ∗ (idxLoc d ↦[Finset.univ \ Cert.Proof.Tile.iRowSet L]{q} wrI d Ix)) : sProp 𝕄) := by
  unfold Cert.Proof.Tile.goT
  have hI : (idxLoc d ↦{q} wrI d Ix : sProp 𝕄)
      ⊢ iprop((Cert.Proof.Tile.iLoc d ↦[Cert.Proof.Tile.iRowSet L]{q} Ix) ∗ (idxLoc d ↦[Finset.univ \ Cert.Proof.Tile.iRowSet L]{q} wrI d Ix)) :=
    (pointsTo_split_subset (ℓ := idxLoc d) (q := q) (f := wrI d Ix) (Finset.subset_univ (Cert.Proof.Tile.iRowSet L))).1
  have hO : (out0 d ↦[(outRect (wid (cL0 L) (jL0 L))).set]{fullShare} fo : sProp 𝕄)
      ⊢ bigSep Finset.univ fun tb : Fin k0_t1_loop.trips × Fin 2 => (Cert.Proof.Tile.oLoc d ↦[Cert.Proof.Tile.oChunkSet L tb.1 tb.2]{fullShare} fo : sProp 𝕄) :=
    Entails.of_eq (Cert.Proof.Tile.oPts_chunks (F := F) (U := UU) d L (wid (cL0 L) (jL0 L)) (wid_eq L) fo)
  iintro ⟨Ht, Hi, Ho, ⟨%fs, Hs⟩⟩
  ihave Hi' := hI $$ Hi
  icases Hi' with ⟨Hrow, Hrest⟩
  isplitr [Hrest]
  · isplitl [Ht]; · iexact Ht
    isplitl [Hrow]; · iexact Hrow
    isplitl [Ho]; · iapply hO; iexact Ho
    iexists fs
    rw [stripe0_eq]
    iexact Hs
  · iexact Hrest

/-- THE RESULTS (their frame): the tokens back, the index table's token whole again, the eighty chunks as the worker's
    rows at some contents, the read token of the whole shared table and the kept remainder of the staged rows. -/
theorem td_conv0 (d : Dev nD) (L : grid0.Coords) (q : PosShare TreeShare) (Tx : S10000x128.Idx → F .f32) (Ix : S32x10496.Idx → BitVec 32) :
    iprop(Cert.Proof.Tile.tdT d L q q Tx Ix ∗ (idxLoc d ↦[Finset.univ \ Cert.Proof.Tile.iRowSet L]{q} wrI d Ix))
      ⊢ (iprop((tab0 d ↦{q} wrT0 d Tx) ∗ (idxLoc d ↦{q} wrI d Ix)
          ∗ (∃ fo, out0 d ↦[(outRect (wid (cL0 L) (jL0 L))).set]{fullShare} fo)
          ∗ (sh0 d ((cL0 L).castLE (by decide)) ↦{Transfers.shareTok fullShare 16 (jL0 L)} wrS0 d ((cL0 L).castLE (by decide)) Tx)
          ∗ (sh0 d ((cL0 L).castLE (by decide)) ↦[(stageRect (jL0 L)).set]{Transfers.shareDrop fullShare 16} wrS0 d ((cL0 L).castLE (by decide)) Tx)) : sProp 𝕄) := by
  unfold Cert.Proof.Tile.tdT
  have hI : iprop((Cert.Proof.Tile.iLoc d ↦[Cert.Proof.Tile.iRowSet L]{q} Ix) ∗ (idxLoc d ↦[Finset.univ \ Cert.Proof.Tile.iRowSet L]{q} wrI d Ix))
      ⊢ (idxLoc d ↦{q} wrI d Ix : sProp 𝕄) :=
    (pointsTo_split_subset (ℓ := idxLoc d) (q := q) (f := wrI d Ix) (Finset.subset_univ (Cert.Proof.Tile.iRowSet L))).2
  iintro ⟨⟨Ht, Hrow, Ho, Hsk, Hsd⟩, Hrest⟩
  isplitl [Ht]; · iexact Ht
  isplitl [Hrow Hrest]
  · iapply hI
    isplitl [Hrow]; · iexact Hrow
    iexact Hrest
  isplitl [Ho]
  · iapply (Cert.Proof.Tile.oChunks_join (F := F) (U := UU) d L (wid (cL0 L) (jL0 L)) (wid_eq L)); iexact Ho
  isplitl [Hsk]; · iexact Hsk
  rw [← stripe0_eq]
  iexact Hsd

/-- The worker's row of the index table, read through the kernel's view of it: entry `x` of the row is the table's
    entry `(w, x)`, `w` the worker's number. -/
theorem iRow_emb (L : grid0.Coords) (x : S10496.Idx) (hx : (x 0).val < 10496) :
    (Cert.Proof.Tile.iRowK L).view.emb x = ValueIdx.ix2 (wid (cL0 L) (jL0 L)) (⟨(x 0).val, hx⟩ : Fin 10496) := by
  have hk : Shape.reshapeEquiv (s := S1x10496) (s' := S10496) (squeezes_S1x10496_S10496).numel_eq x
      = (ValueIdx.ix2 (0 : Fin 1) (⟨(x 0).val, hx⟩ : Fin 10496) : S1x10496.Idx) :=
    Shape.reshapeEquiv_eq_of_rowMajor _ (by
      show ((⟨2, ![1, 10496]⟩ : Shape).rowMajor (ValueIdx.ix2 (0 : Fin 1) (⟨(x 0).val, hx⟩ : Fin 10496)) : ℕ) = ((⟨1, ![10496]⟩ : Shape).rowMajor x : ℕ)
      rw [Shape.rowMajor_val_two, Shape.rowMajor_val_one]; simp)
  show (Rect.unit (s := S32x10496) (k0_off1 L) S1x10496.size (k0_off1_inb L)).emb
    (Shape.reshapeEquiv (s := S1x10496) (s' := S10496) (squeezes_S1x10496_S10496).numel_eq x) = _
  rw [hk]
  funext a
  refine Fin.ext ?_
  have h1 := k0_off1_eq L
  match a with
  | ⟨0, _⟩ =>
    show (k0_off1 L) 0 + 1 * 0 = 2 * (L 1).val + (L 0).val
    rw [h1]; simp
  | ⟨1, _⟩ =>
    show (k0_off1 L) 1 + 1 * (x 0).val = (x 0).val
    rw [h1]; simp

/-- Every entry of the worker's row names a row of the table, in the form the kernel's body asks it. -/
theorem hin_conv0 (L : grid0.Coords) (Ix : S32x10496.Idx → BitVec 32) (hok : IdxOk (wid (cL0 L) (jL0 L)) Ix) :
    ∀ x, ((Cert.Proof.Tile.iRowK L).view.read (Elt F) Ix x).toNat < 10000 := by
  intro x
  rw [View.read_apply, iRow_emb L x (x 0).isLt]
  exact hok _

end Cert.Proof.KI

end
-- ==== Proof.ScTileAsm.lean ====
/-
  The kernel's body on one subcore, stated over the body's own vocabulary with each result chunk at the neighbour sums,
  gives the statement the launch asks over its payloads: the kit, the operands and the scoped storage are cut the way the
  body takes them, the rest rides along beside the run, and the results are put back — the eighty chunks as the worker's
  rows at the sums.
-/
import proofs.«205366_g3083786518796_cont_9to1_852_38_alg».proof.Proof.ScTileParts
import proofs.«205366_g3083786518796_cont_9to1_852_38_alg».proof.Proof.GSum

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-- What the body hands back, each result chunk at the neighbour sums of the table over the index table. -/
def tdTv (d : Dev nD) (L : grid0.Coords) (qx qi : PosShare TreeShare) (Tx : S10000x128.Idx → F .f32) (Ix : S32x10496.Idx → BitVec 32) : sProp 𝕄 :=
  iprop((Cert.Proof.Tile.xLoc d ↦{qx} Tx) ∗ (Cert.Proof.Tile.iLoc d ↦[Cert.Proof.Tile.iRowSet L]{qi} Ix)
    ∗ (bigSep Finset.univ fun tb : Fin k0_t1_loop.trips × Fin 2 =>
        iprop(∃ f, (Cert.Proof.Tile.oLoc d ↦[Cert.Proof.Tile.oChunkSet L tb.1 tb.2]{fullShare} f)
          ∗ ⌜∀ x ∈ Cert.Proof.Tile.oChunkSet L tb.1 tb.2, f x = gsumF Tx Ix x⌝))
    ∗ (Cert.Proof.Tile.shLoc d (Cert.Proof.Tile.cV L) ↦{Cert.Proof.Tile.shTok (Cert.Proof.Tile.jV L)} Tx)
    ∗ (Cert.Proof.Tile.shLoc d (Cert.Proof.Tile.cV L) ↦[Cert.Proof.Tile.stripe (Cert.Proof.Tile.jL L)]{Cert.Proof.Tile.shKeep} Tx))

/-- The three scratches of the task, each whole at some contents; its six semaphores at zero. -/
abbrev scr3 (d : Dev nD) (L : grid0.Coords) : sProp 𝕄 :=
  iprop((∃ f, (V d (Cert.Proof.Tile.cV L) (Cert.Proof.Tile.jV L)).loc cc0_scratch0 ↦{fullShare} f)
    ∗ (∃ f, (V d (Cert.Proof.Tile.cV L) (Cert.Proof.Tile.jV L)).loc cc0_scratch1 ↦{fullShare} f)
    ∗ (∃ f, (V d (Cert.Proof.Tile.cV L) (Cert.Proof.Tile.jV L)).loc cc0_scratch2 ↦{fullShare} f))
abbrev sem6 (d : Dev nD) (L : grid0.Coords) : sProp 𝕄 :=
  iprop(semVal (Cert.Proof.Tile.cell d L cc0_scoped0.sem) 0 ∗ semVal (Cert.Proof.Tile.cell d L cc0_scoped1.sem) 0
    ∗ semVal (Cert.Proof.Tile.cell d L Cert.Proof.Tile.g0sem) 0 ∗ semVal (Cert.Proof.Tile.cell d L Cert.Proof.Tile.g1sem) 0
    ∗ semVal (Cert.Proof.Tile.cell d L Cert.Proof.Tile.o0sem) 0 ∗ semVal (Cert.Proof.Tile.cell d L Cert.Proof.Tile.o1sem) 0)

/-- THE BODY'S STATEMENT for call 0 in the body's own vocabulary, over the launch's barrier schedule, with the valued post. -/
def TileStmt0 : Prop :=
  ∀ (d : Dev nD) (L : grid0.Coords) (qx qi : PosShare TreeShare) (fo : S10240x128.Idx → F .f32)
    (O : CellTallies nD τ sig (HIx 3)) (W : Waits sig (HIx 3)), (∀ g, O g none = 0) →
    (∀ g ι, 0 < O g ι → 8 * (0 : Fin 3).val + 6 ≤ (K (F := F)).lev g ι) →
    (∀ x, ((Cert.Proof.Tile.iRowK L).view.read (Elt F) (Ib d) x).toNat < 10000) →
    iprop(levAts (K (F := F)).L (K (F := F)).lev ∗ kitR (F := F) (bRd (F := F) Tb) 0 0 d (Cert.Proof.Tile.cV L) (Cert.Proof.Tile.jV L)
        ∗ Cert.Proof.Tile.goT d L qx qi (Tb 0 d) (Ib d) fo ∗ scr3 (F := F) d L ∗ sem6 (F := F) d L
        ∗ owes (V d (Cert.Proof.Tile.cV L) (Cert.Proof.Tile.jV L)) (O + oxV 0 d (Cert.Proof.Tile.cV L)) W)
      ⊢ wp frame (wpE (defs₀ (F := F)) 𝒱₀ (V d (Cert.Proof.Tile.cV L) (Cert.Proof.Tile.jV L)) none) Set.univ
          (cc0__sc_gather_sum L (Memref.whole main_arg0_scv) (Memref.isWhole_whole _) (Memref.whole main_v7_scv) (Memref.isWhole_whole _)
            (Memref.whole main_v8_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scoped0 cc0_scoped1)
          fun _ => iprop(tdTv (F := F) d L qx qi (Tb 0 d) (Ib d)
            ∗ (atPos EB (bcell d (Cert.Proof.Tile.cV L) (Cert.Proof.Tile.jV L)) (0 + 1) (∅ : Finset ℕ) 0
                ∗ reached (D := ℕ) EB (bcell d (Cert.Proof.Tile.cV L) (Cert.Proof.Tile.jV L)) (0 + 1))
            ∗ scr3 (F := F) d L ∗ sem6 (F := F) d L
            ∗ ∃ W', ⌜∀ p ∈ W', p ∈ W ∨ p.2 = none ∨ p.2 = some (0 : Fin 3)⌝ ∗ owes (V d (Cert.Proof.Tile.cV L) (Cert.Proof.Tile.jV L)) O W')

/-- The eighty valued chunks are the worker's rows at contents related to the table and the index table as the launch asks. -/
def ChunksVal0 : Prop :=
  ∀ (d : Dev nD) (L : grid0.Coords) (Tx : S10000x128.Idx → F .f32) (Ix : S32x10496.Idx → BitVec 32),
    (bigSep Finset.univ fun tb : Fin k0_t1_loop.trips × Fin 2 =>
        (iprop(∃ f, (Cert.Proof.Tile.oLoc d ↦[Cert.Proof.Tile.oChunkSet L tb.1 tb.2]{fullShare} f)
          ∗ ⌜∀ x ∈ Cert.Proof.Tile.oChunkSet L tb.1 tb.2, f x = gsumF Tx Ix x⌝) : sProp 𝕄))
      ⊢ (iprop(∃ fo, (out0 d ↦[(outRect (wid (cL0 L) (jL0 L))).set]{fullShare} fo) ∗ ⌜SumRel (wid (cL0 L) (jL0 L)) Tx Ix (rdO0 d fo)⌝) : sProp 𝕄)

set_option maxRecDepth 16384 in
set_option maxHeartbeats 1000000 in
/-- THE ASSEMBLY for call 0: the launch's statement of the body from the body's own. -/
theorem bodySpec0_of_tile (ht : TileStmt0 (F := F) Tb Ib) (he : ChunksVal0 (F := F)) : BodySpec0 (F := F) Tb Ib := by
  intro d L O W hO hOlev
  have hgo : goQ Tb Ib 0 d (cL0 L) (jL0 L)
      = goPay (tab0 d) (idxLoc d) (out0 d) (sh0 d) (fun _ n => (stageRect n).set) (fun w => (outRect w).set) (wrT0 d) (wrI d) (Tb 0 d) (Ib d) 0 d (cL0 L) (jL0 L) := rfl
  have htd : tdQ Tb Ib 0 d (cL0 L) (jL0 L)
      = tdPay (tab0 d) (idxLoc d) (out0 d) (sh0 d) (fun _ n => (stageRect n).set) (fun w => (outRect w).set) (wrT0 d) (wrI d) (rdO0 d) (wrS0 d) (Tb 0 d) (Ib d) 0 d (cL0 L) (jL0 L) := rfl
  rw [hgo, htd, (K (F := F)).scopedBufs_V facts d (Cert.Proof.Tile.cV L) (Cert.Proof.Tile.jV L),
    SparseCore.Cfg.scopedSems0_V (Val := Elt F) d (Cert.Proof.Tile.cV L) (Cert.Proof.Tile.jV L),
    Cert.Proof.Tile.ownSems0_V (F := F) (U := UU) d L, Cert.Proof.Tile.ownBufs_V (F := F) (U := UU) d L]
  unfold goPay tdPay barCarry
  iintro ⟨#Hlv, Hkit, ⟨Ht, Hi, %hok, ⟨%fo, Ho⟩, Hs, Hat, #Hre⟩, ⟨Hb0, Hb1, Hb2, Hbrest⟩, ⟨Hs0, Hs1, Hs2, Hs3, Hs4, Hs5, Hsrest⟩, HO⟩
  ihave Hk := (kit_conv0 (F := F) Tb d L) $$ [Hkit Hat]
  · isplitl [Hkit]; · iexact Hkit
    isplitl [Hat]; · iexact Hat
    iexact Hre
  ihave Hg := (go_conv0 (F := F) d L (tileShare (cL0 L) (jL0 L)) (Tb 0 d) (Ib d) fo) $$ [Ht Hi Ho Hs]
  · isplitl [Ht]; · iexact Ht
    isplitl [Hi]; · iexact Hi
    isplitl [Ho]; · iexact Ho
    iexact Hs
  icases Hg with ⟨Hgo, Hirest⟩
  iapply (wp_wand_r frame (wpE (defs₀ (F := F)) 𝒱₀ (V d (Cert.Proof.Tile.cV L) (Cert.Proof.Tile.jV L)) none) Set.univ)
  isplitl [Hk Hgo Hb0 Hb1 Hb2 Hs0 Hs1 Hs2 Hs3 Hs4 Hs5 HO]
  · iapply (ht d L (tileShare (cL0 L) (jL0 L)) (tileShare (cL0 L) (jL0 L)) fo O W hO hOlev (hin_conv0 (F := F) L (Ib d) hok))
    isplitr; · iexact Hlv
    isplitl [Hk]; · iexact Hk
    isplitl [Hgo]; · iexact Hgo
    isplitl [Hb0 Hb1 Hb2]
    · isplitl [Hb0]; · iexact Hb0
      isplitl [Hb1]; · iexact Hb1
      iexact Hb2
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    iexact HO
  iintro %_ ⟨Htd, ⟨Hat1, Hre1⟩, ⟨Hb0, Hb1, Hb2⟩, ⟨Hs0, Hs1, Hs2, Hs3, Hs4, Hs5⟩, HW⟩
  unfold tdTv
  icases Htd with ⟨Ht, Hrow, Hch, Hsk, Hsd⟩
  ihave Ho := (he d L (Tb 0 d) (Ib d)) $$ Hch
  have hI : iprop((Cert.Proof.Tile.iLoc d ↦[Cert.Proof.Tile.iRowSet L]{tileShare (cL0 L) (jL0 L)} Ib d)
        ∗ (idxLoc d ↦[Finset.univ \ Cert.Proof.Tile.iRowSet L]{tileShare (cL0 L) (jL0 L)} wrI d (Ib d)))
      ⊢ (idxLoc d ↦{tileShare (cL0 L) (jL0 L)} wrI d (Ib d) : sProp 𝕄) :=
    (pointsTo_split_subset (ℓ := idxLoc d) (q := tileShare (cL0 L) (jL0 L)) (f := wrI d (Ib d)) (Finset.subset_univ (Cert.Proof.Tile.iRowSet L))).2
  have hSd : (Cert.Proof.Tile.shLoc d (Cert.Proof.Tile.cV L) ↦[Cert.Proof.Tile.stripe (Cert.Proof.Tile.jL L)]{Cert.Proof.Tile.shKeep} Tb 0 d : sProp 𝕄)
      ⊢ (sh0 d (Cert.Proof.Tile.cV L) ↦[(stageRect (jL0 L)).set]{Transfers.shareDrop fullShare 16} wrS0 d (Cert.Proof.Tile.cV L) (Tb 0 d) : sProp 𝕄) := by
    rw [stripe0_eq]
  isplitl [Ht Hrow Hirest Ho Hsk Hsd Hat1 Hre1]
  · isplitl [Ht]; · iexact Ht
    isplitl [Hrow Hirest]
    · iapply hI
      isplitl [Hrow]; · iexact Hrow
      iexact Hirest
    isplitl [Ho]; · iexact Ho
    isplitl [Hsk]; · iexact Hsk
    isplitl [Hsd]
    · iapply hSd; iexact Hsd
    isplitl [Hat1]; · iexact Hat1
    iexact Hre1
  isplitl [Hb0 Hb1 Hb2 Hbrest]
  · isplitl [Hb0]; · iexact Hb0
    isplitl [Hb1]; · iexact Hb1
    isplitl [Hb2]; · iexact Hb2
    iexact Hbrest
  isplitl [Hs0 Hs1 Hs2 Hs3 Hs4 Hs5 Hsrest]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsrest
  iexact HW

end Cert.Proof.KI

end
-- ==== Proof.BodyOwnC1.lean ====
/-
  A subcore's own semaphores and buffers, with the ones its task uses picked out.

  The launch hands a vector subcore every semaphore scoped to it at zero and every buffer it owns at some contents.
  The gather-sum task uses six of the semaphores (the two of its scoped regions, the two gather slots and the two
  write-out slots) and three of the buffers (the index, row and result scratches); the rest is carried along.
-/
import proofs.«205366_g3083786518796_cont_9to1_852_38_alg».proof.Proof.BodyDefsC1
import proofs.«205366_g3083786518796_cont_9to1_852_38_alg».proof.Proof.BodyLemmasC1

noncomputable section

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
variable [FloatOps F]
variable {U : Type} [URA U] [CountersIn U]

local notation "𝕄" => MT nD τ sig (HIx 3) (Elt F) ℕ U ℕ

variable (d : Dev nD) (L : grid3.Coords)

theorem cell_mem (sm : DmaSem sig) (h : (SemLoc.dma sm : SemLoc sig).isScoped .scVector = true) :
    cell d L sm ∈ ownCells (V d (cV L) (jV L)) := (mem_ownCells (g := cell d L sm)).mpr ⟨rfl, h⟩

theorem cell_ne {sm sm' : DmaSem sig} (h : sm ≠ sm') : cell d L sm ≠ cell d L sm' :=
  fun e => h (SemLoc.dma.inj (Prod.mk.inj e).2)

/-- The subcore's scoped semaphores at zero: the six its task uses, and the rest. -/
theorem ownSems0_V :
    (ownSems0 (V d (cV L) (jV L)) : sProp 𝕄)
      = iprop(semVal (cell d L cc3_scoped0.sem) 0 ∗ semVal (cell d L cc3_scoped1.sem) 0 ∗ semVal (cell d L g0sem) 0 ∗ semVal (cell d L g1sem) 0
          ∗ semVal (cell d L o0sem) 0 ∗ semVal (cell d L o1sem) 0
          ∗ bigSep (((((((ownCells (V d (cV L) (jV L))).erase (cell d L cc3_scoped0.sem)).erase (cell d L cc3_scoped1.sem)).erase (cell d L g0sem)).erase (cell d L g1sem)).erase
              (cell d L o0sem)).erase (cell d L o1sem)) fun g => semVal g 0) := by
  unfold SparseCore.Cfg.ownSems0
  rw [SparseCore.bigSep_erase' (cell_mem d L cc3_scoped0.sem (by decide)),
    SparseCore.bigSep_erase' (Finset.mem_erase.mpr ⟨cell_ne d L (by decide), cell_mem d L cc3_scoped1.sem (by decide)⟩),
    SparseCore.bigSep_erase' (Finset.mem_erase.mpr ⟨cell_ne d L (by decide), Finset.mem_erase.mpr ⟨cell_ne d L (by decide), cell_mem d L g0sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L g1sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L o0sem (by decide)⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
        Finset.mem_erase.mpr ⟨cell_ne d L (by decide), cell_mem d L o1sem (by decide)⟩⟩⟩⟩⟩)]

theorem scratch_mem (b : Ref sig .scVector) (h : ((Proc.scVector (cV L) (jV L)).devRef b : DevRef τ sig).owner = .proc (Proc.scVector (cV L) (jV L))) :
    (Proc.scVector (cV L) (jV L)).devRef b ∈ ownRefs (τ := τ) (sig := sig) (.scVector (cV L) (jV L)) :=
  SparseCore.Cfg.mem_ownRefs_of_owner h

/-- The subcore's own buffers at some contents: the three scratches its task uses, and the rest. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ (∃ f, (V d (cV L) (jV L)).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  rw [SparseCore.bigSep_erase' (scratch_mem L cc3_scratch0 rfl),
    SparseCore.bigSep_erase' (Finset.mem_erase.mpr ⟨fun e => absurd (Proc.devRef_injective _ e) (show (cc3_scratch1 : Ref sig .scVector) ≠ cc3_scratch0 by decide), scratch_mem L cc3_scratch1 rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide), scratch_mem L cc3_scratch2 rfl⟩⟩)]

end Cert.Proof.Tile1

end
-- ==== Proof.BodyCoverC1.lean ====
/-
  A worker's output rows as its eighty result chunks.

  Trip t (of forty) and slot b (of two) of subcore L write the four rows 320·w + 8·t + 4·b … + 3 of the padded
  output, w = 2·(L 1) + (L 0) the worker's number.  For a fixed worker these eighty row ranges are pairwise
  disjoint and their union is the worker's 320 rows 320·w … 320·w + 319; so owning the worker's rows outright is
  owning the eighty chunks, and eighty chunks each at some contents join into the rows at some contents.
-/
import proofs.«205366_g3083786518796_cont_9to1_852_38_alg».proof.Proof.BodyDefsC1
import proofs.«205366_g3083786518796_cont_9to1_852_38_alg».proof.Proof.BodyLemmasC1
import proofs.«205366_g3083786518796_cont_9to1_852_38_alg».proof.Proof.ScPay

noncomputable section

namespace Cert.Proof.Tile1

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}
variable [FloatOps F]
variable {U : Type} [URA U] [CountersIn U]

local notation "𝕄" => MT nD τ sig (HIx 3) (Elt F) ℕ U ℕ

/-- The loop runs forty trips. -/
theorem trips_eq : k3_t1_loop.trips = 40 := by decide

theorem oChunkSet_eq (L : grid3.Coords) (t : Fin k3_t1_loop.trips) (b : Fin 2) :
    oChunkSet L t b = (Rect.unit (s := S10240x128) (k3_off20 L t (BitVec.ofNat 32 b.val)) S4x128.size (k3_off20_inb L t b)).set :=
  View.set_slice_whole _ _

/-- A chunk is four whole rows. -/
theorem mem_oChunkSet (L : grid3.Coords) (t : Fin k3_t1_loop.trips) (b : Fin 2) (x : S10240x128.Idx) :
    x ∈ oChunkSet L t b ↔ 640 * (L 1).val + 320 * (L 0).val + 8 * t.val + 4 * b.val ≤ (x 0 : ℕ)
      ∧ (x 0 : ℕ) < 640 * (L 1).val + 320 * (L 0).val + 8 * t.val + 4 * b.val + 4 := by
  rw [oChunkSet_eq, Rect.mem_set_unit, k3_off20_eq]
  constructor
  · intro h; have := h 0; simpa using this
  · intro h a
    match a with
    | 0 => simpa using h
    | 1 => exact ⟨Nat.zero_le _, by simpa using (x 1).isLt⟩

/-- A worker's rows. -/
theorem mem_outRect (w : Fin 32) (x : S10240x128.Idx) :
    x ∈ (Cert.Proof.KI.outRect w).set ↔ 320 * w.val ≤ (x 0 : ℕ) ∧ (x 0 : ℕ) < 320 * w.val + 320 := by
  unfold Cert.Proof.KI.outRect
  rw [Rect.mem_set_unit]
  constructor
  · intro h; have := h 0; simpa using this
  · intro h a
    match a with
    | 0 => simpa using h
    | 1 => exact ⟨Nat.zero_le _, by simpa using (x 1).isLt⟩

theorem oChunks_disjoint (L : grid3.Coords) :
    ∀ tb ∈ (Finset.univ : Finset (Fin k3_t1_loop.trips × Fin 2)), ∀ tb' ∈ (Finset.univ : Finset (Fin k3_t1_loop.trips × Fin 2)),
      tb ≠ tb' → Disjoint (oChunkSet L tb.1 tb.2) (oChunkSet L tb'.1 tb'.2) := by
  rintro ⟨t, b⟩ - ⟨t', b'⟩ - hne
  rw [Finset.disjoint_left]
  intro x h h'
  rw [mem_oChunkSet] at h h'
  have hd : t.val ≠ t'.val ∨ b.val ≠ b'.val := by
    by_contra hh
    have hh' := not_or.mp hh
    exact hne (Prod.ext (Fin.ext (not_not.mp hh'.1)) (Fin.ext (not_not.mp hh'.2)))
  have hb := b.isLt
  have hb' := b'.isLt
  dsimp only at h h'
  omega

theorem oChunks_cover (L : grid3.Coords) (w : Fin 32) (hw : w.val = 2 * (L 1).val + (L 0).val) :
    (Finset.univ : Finset (Fin k3_t1_loop.trips × Fin 2)).biUnion (fun tb => oChunkSet L tb.1 tb.2) = (Cert.Proof.KI.outRect w).set := by
  ext x
  simp only [Finset.mem_biUnion, Finset.mem_univ, true_and]
  rw [mem_outRect]
  constructor
  · rintro ⟨⟨t, b⟩, h⟩
    rw [mem_oChunkSet] at h
    have ht : t.val < 40 := lt_of_lt_of_eq t.isLt trips_eq
    have hb := b.isLt
    dsimp only at h
    omega
  · intro h
    refine ⟨(⟨((x 0 : ℕ) - 320 * w.val) / 8, by rw [trips_eq]; omega⟩, ⟨(((x 0 : ℕ) - 320 * w.val) % 8) / 4, by omega⟩), (mem_oChunkSet _ _ _ _).mpr ?_⟩
    dsimp only
    omega

/-- A worker's rows owned outright are its eighty chunks. -/
theorem oPts_chunks (d : Dev nD) (L : grid3.Coords) (w : Fin 32) (hw : w.val = 2 * (L 1).val + (L 0).val) (f : Buf (Elt F) (oLoc d)) :
    (oLoc d ↦[(Cert.Proof.KI.outRect w).set]{fullShare} f : sProp 𝕄)
      = bigSep Finset.univ fun tb : Fin k3_t1_loop.trips × Fin 2 => oLoc d ↦[oChunkSet L tb.1 tb.2]{fullShare} f := by
  rw [← pointsTo_biUnion Finset.univ (ℓ := oLoc d) (fun tb : Fin k3_t1_loop.trips × Fin 2 => oChunkSet L tb.1 tb.2) (oChunks_disjoint L),
    oChunks_cover L w hw]

/-- Eighty chunks, each at some contents, are the worker's rows at some contents. -/
theorem oChunks_join (d : Dev nD) (L : grid3.Coords) (w : Fin 32) (hw : w.val = 2 * (L 1).val + (L 0).val) :
    (bigSep Finset.univ fun tb : Fin k3_t1_loop.trips × Fin 2 => iprop(∃ f, oLoc d ↦[oChunkSet L tb.1 tb.2]{fullShare} f))
      ⊢ (iprop(∃ f, oLoc d ↦[(Cert.Proof.KI.outRect w).set]{fullShare} f) : sProp 𝕄) := by
  refine (bigSep_exists_pi Finset.univ (fun (tb : Fin k3_t1_loop.trips × Fin 2) (f : Buf (Elt F) (oLoc d)) =>
    (oLoc d ↦[oChunkSet L tb.1 tb.2]{fullShare} f : sProp 𝕄))).trans ?_
  iintro ⟨%fs, H⟩
  ihave H' := (pointsTo_biUnion_join Finset.univ (fun tb : Fin k3_t1_loop.trips × Fin 2 => oChunkSet L tb.1 tb.2) fs
    (fs (⟨0, by rw [trips_eq]; omega⟩, 0)) (oChunks_disjoint L)) $$ H
  icases H' with ⟨%g, -, Hg⟩
  rw [oChunks_cover L w hw]
  iexists g; iexact Hg

end Cert.Proof.Tile1

end
-- ==== Proof.ScTileParts1.lean ====
/-
  The parts of a vector subcore's task obligation that do not depend on the kernel's body: the reduction of the launch's
  obligation to a statement about the body on one subcore; the tile's scoped storage split into what the task uses and
  the rest; the launch's barrier kit in the body's indexing; the task's operands cut the way the body takes them (the
  index table's row out of the whole table, the output rows as the eighty chunks, the staged rows as the stripe) and
  the results put back.
-/
import proofs.«205366_g3083786518796_cont_9to1_852_38_alg».proof.Proof.ScPay
import proofs.«205366_g3083786518796_cont_9to1_852_38_alg».proof.Proof.BodyDefsC1
import proofs.«205366_g3083786518796_cont_9to1_852_38_alg».proof.Proof.BodyLemmasC1
import proofs.«205366_g3083786518796_cont_9to1_852_38_alg».proof.Proof.BodyOwnC1
import proofs.«205366_g3083786518796_cont_9to1_852_38_alg».proof.Proof.BodyCoverC1
import proofs.«205366_g3083786518796_cont_9to1_852_38_alg».proof.Proof.ScBarPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-! ## Call 0 -/

/-- The subcore's coordinates as the launch payloads index them. -/
abbrev cL1 (L : grid3.Coords) : Fin 2 := Fin.cast (by decide) (L 0)
abbrev jL1 (L : grid3.Coords) : Fin 16 := Fin.cast (by decide) (L 1)

theorem defs₀_vector1 (c : Fin τ.nSC) (s : Fin τ.nSub) :
    defs₀ (F := F) (.scVector c s) 3 ()
      = SparseCore.onTile hcore3 hsub3 (fun c s => cc3__sc_gather_sum (Cert.Proof.Tile1.coordsV c s)
          (Memref.whole main_v11_0_scv) (Memref.isWhole_whole _) (Memref.whole main_v7_scv) (Memref.isWhole_whole _)
          (Memref.whole main_v12_scv) (Memref.isWhole_whole _) (Memref.whole cc3_scratch0) (Memref.isWhole_whole _)
          (Memref.whole cc3_scratch1) (Memref.isWhole_whole _) (Memref.whole cc3_scratch2) (Memref.isWhole_whole _)
          (Memref.whole cc3_scratch3) (Memref.isWhole_whole _) cc3_scratch4 cc3_scratch5 cc3_scoped0 cc3_scoped1) ⟨⟩ c s := rfl

/-- THE BODY'S STATEMENT for call 0, over the launch's payloads: the kernel on vector subcore `L`, from its barrier kit, its
    task's operands, its scoped storage and what it owes, to the task's results. -/
def BodySpec1 : Prop :=
  ∀ (d : Dev nD) (L : grid3.Coords) (O : CellTallies nD τ sig (HIx 3)) (W : Waits sig (HIx 3)), (∀ g, O g none = 0) →
    (∀ g ι, 0 < O g ι → 8 * (1 : Fin 3).val + 6 ≤ (K (F := F)).lev g ι) →
    iprop(levAts (K (F := F)).L (K (F := F)).lev ∗ bkit (F := F) Tb 1 d (Cert.Proof.Tile1.cV L) (Cert.Proof.Tile1.jV L)
        ∗ goQ Tb Ib 1 d (cL1 L) (jL1 L)
        ∗ scopedBufs (V d (Cert.Proof.Tile1.cV L) (Cert.Proof.Tile1.jV L)) ∗ scopedSems0 (V d (Cert.Proof.Tile1.cV L) (Cert.Proof.Tile1.jV L))
        ∗ owes (V d (Cert.Proof.Tile1.cV L) (Cert.Proof.Tile1.jV L)) (O + oxV 1 d (Cert.Proof.Tile1.cV L)) W)
      ⊢ wp frame (wpE (defs₀ (F := F)) 𝒱₀ (V d (Cert.Proof.Tile1.cV L) (Cert.Proof.Tile1.jV L)) none) Set.univ
          (cc3__sc_gather_sum L (Memref.whole main_v11_0_scv) (Memref.isWhole_whole _) (Memref.whole main_v7_scv) (Memref.isWhole_whole _)
            (Memref.whole main_v12_scv) (Memref.isWhole_whole _) (Memref.whole cc3_scratch0) (Memref.isWhole_whole _)
            (Memref.whole cc3_scratch1) (Memref.isWhole_whole _) (Memref.whole cc3_scratch2) (Memref.isWhole_whole _)
            (Memref.whole cc3_scratch3) (Memref.isWhole_whole _) cc3_scratch4 cc3_scratch5 cc3_scoped0 cc3_scoped1)
          fun _ => iprop(tdQ Tb Ib 1 d (cL1 L) (jL1 L)
            ∗ scopedBufs (V d (Cert.Proof.Tile1.cV L) (Cert.Proof.Tile1.jV L)) ∗ scopedSems0 (V d (Cert.Proof.Tile1.cV L) (Cert.Proof.Tile1.jV L))
            ∗ ∃ W', ⌜∀ p ∈ W', p ∈ W ∨ p.2 = none ∨ p.2 = some (1 : Fin 3)⌝ ∗ owes (V d (Cert.Proof.Tile1.cV L) (Cert.Proof.Tile1.jV L)) O W')

set_option maxRecDepth 16384 in
/-- The launch's obligation for call 0 from the body's statement. -/
theorem tileObl1_of_body (hbody : BodySpec1 (F := F) Tb Ib) : (K (F := F)).TileObl (D (F := F)) 𝒱 (P (F := F) Tb Ib) v₀ 1 := by
  intro d c i O W hO hOlev _
  have hci : ((K (F := F)).core 1 c).val < grid3.bound 0 ∧ ((K (F := F)).sub 1 i).val < grid3.bound 1 := ⟨c.isLt, i.isLt⟩
  rw [show (P (F := F) Tb Ib).ox 1 (V d ((K (F := F)).core 1 c) ((K (F := F)).sub 1 i)) = oxV 1 d ((K (F := F)).core 1 c) from rfl,
    show (P (F := F) Tb Ib).x 1 (V d ((K (F := F)).core 1 c) ((K (F := F)).sub 1 i)) = bkit (F := F) Tb 1 d ((K (F := F)).core 1 c) ((K (F := F)).sub 1 i) from rfl]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact hbody d (Cert.Proof.Tile1.coordsV ⟨_, hci.1⟩ ⟨_, hci.2⟩) O W hO hOlev

/-! ## The scoped storage: the three scratches and six semaphores the task uses, and the rest -/

/-- A vector subcore's scoped buffers and semaphores, as the launch hands them: the task's three scratches at some
    contents, its six semaphores at zero, and the rest of each. -/
theorem scoped_split1 (d : Dev nD) (L : grid3.Coords) :
    (iprop(scopedBufs (V d (Cert.Proof.Tile1.cV L) (Cert.Proof.Tile1.jV L)) ∗ scopedSems0 (V d (Cert.Proof.Tile1.cV L) (Cert.Proof.Tile1.jV L))) : sProp 𝕄)
      = iprop(ownBufs (V d (Cert.Proof.Tile1.cV L) (Cert.Proof.Tile1.jV L)) ∗ ownSems0 (V d (Cert.Proof.Tile1.cV L) (Cert.Proof.Tile1.jV L))) := by
  rw [(K (F := F)).scopedBufs_V facts d (Cert.Proof.Tile1.cV L) (Cert.Proof.Tile1.jV L),
    SparseCore.Cfg.scopedSems0_V (Val := Elt F) d (Cert.Proof.Tile1.cV L) (Cert.Proof.Tile1.jV L)]

/-! ## The barrier kit, in the body's indexing -/

/-- The barrier kit as the kernel's body takes it, over any schedule: every cell's invariant, the tile's duty token in
    every cell's round, that every cell has reached the round, the tile's own position, and the credit for its round. -/
def kitR1 (Rd : Rounds.Schedule (GSem nD τ sig) ℕ 𝕄) (r : ℕ) (q : Fin 3) (d : Dev nD) (c : Fin τ.nSC) (i : Fin τ.nSub) : sProp 𝕄 :=
  iprop((∃ κ : GSem nD τ sig → ℕ, bigSep Finset.univ fun j : Fin (grid3.bound 1) =>
      cellInv EB Rd (κ (bcell d c (j.castLE hsub3))) (bcell d c (j.castLE hsub3)))
    ∗ (bigSep Finset.univ fun j : Fin (grid3.bound 1) => dutyTok EB (bcell d c (j.castLE hsub3)) r i.val)
    ∗ (bigSep Finset.univ fun j : Fin (grid3.bound 1) => reached (D := ℕ) EB (bcell d c (j.castLE hsub3)) r)
    ∗ atPos EB (bcell d c i) r (∅ : Finset ℕ) 0
    ∗ cred (tallyAt (bcell d c i) (some q) (grid3.bound 1)))

/-- The launch's kit for call 0 with the tile's position and the sixteen "reached" its operands carry is the body's kit. -/
theorem kit_conv1 (d : Dev nD) (L : grid3.Coords) :
    iprop(bkit (F := F) Tb 1 d (Cert.Proof.Tile1.cV L) (Cert.Proof.Tile1.jV L)
        ∗ atPos EB (bcell d ((cL1 L).castLE (by decide)) ((jL1 L).castLE (by decide))) 1 ∅ 0
        ∗ bigSep Finset.univ fun j : Fin 16 => reached EB (bcell d ((cL1 L).castLE (by decide)) (j.castLE (by decide))) 1)
      ⊢ kitR1 (F := F) (bRd (F := F) Tb) 1 1 d (Cert.Proof.Tile1.cV L) (Cert.Proof.Tile1.jV L) := by
  unfold bkit kitR1
  iintro ⟨⟨Hinv, Htok, Hcred⟩, Hat, Hre⟩
  isplitl [Hinv]; · iexact Hinv
  isplitl [Htok]; · iexact Htok
  isplitl [Hre]; · iexact Hre
  isplitl [Hat]; · iexact Hat
  iexact Hcred

/-! ## The task's operands, cut the way the body takes them, and its results put back -/

/-- Tile `(c, i)`'s worker number is the body's. -/
theorem wid_eq1 (L : grid3.Coords) : (wid (cL1 L) (jL1 L)).val = 2 * (L 1).val + (L 0).val := rfl

/-- THE OPERANDS: the table's token, the index table's token (the worker's row out of it, the rest kept), the worker's
    output rows as its eighty chunks, and the staged rows as the stripe. -/
theorem go_conv1 (d : Dev nD) (L : grid3.Coords) (q : PosShare TreeShare) (Tx : S10000x128.Idx → F .f32) (Ix : S32x10496.Idx → BitVec 32)
    (fo : S10240x128.Idx → F .f32) :
    iprop((tab1 d ↦{q} wrT1 d Tx) ∗ (idxLoc d ↦{q} wrI d Ix) ∗ (out1 d ↦[(outRect (wid (cL1 L) (jL1 L))).set]{fullShare} fo)
        ∗ (∃ fs, sh1 d ((cL1 L).castLE (by decide)) ↦[(stageRect (jL1 L)).set]{fullShare} fs))
      ⊢ (iprop(Cert.Proof.Tile1.goT d L q q Tx Ix fo
          ∗ (idxLoc d ↦[Finset.univ \ Cert.Proof.Tile1.iRowSet L]{q} wrI d Ix)) : sProp 𝕄) := by
  unfold Cert.Proof.Tile1.goT
  have hI : (idxLoc d ↦{q} wrI d Ix : sProp 𝕄)
      ⊢ iprop((Cert.Proof.Tile1.iLoc d ↦[Cert.Proof.Tile1.iRowSet L]{q} Ix) ∗ (idxLoc d ↦[Finset.univ \ Cert.Proof.Tile1.iRowSet L]{q} wrI d Ix)) :=
    (pointsTo_split_subset (ℓ := idxLoc d) (q := q) (f := wrI d Ix) (Finset.subset_univ (Cert.Proof.Tile1.iRowSet L))).1
  have hO : (out1 d ↦[(outRect (wid (cL1 L) (jL1 L))).set]{fullShare} fo : sProp 𝕄)
      ⊢ bigSep Finset.univ fun tb : Fin k3_t1_loop.trips × Fin 2 => (Cert.Proof.Tile1.oLoc d ↦[Cert.Proof.Tile1.oChunkSet L tb.1 tb.2]{fullShare} fo : sProp 𝕄) :=
    Entails.of_eq (Cert.Proof.Tile1.oPts_chunks (F := F) (U := UU) d L (wid (cL1 L) (jL1 L)) (wid_eq1 L) fo)
  iintro ⟨Ht, Hi, Ho, ⟨%fs, Hs⟩⟩
  ihave Hi' := hI $$ Hi
  icases Hi' with ⟨Hrow, Hrest⟩
  isplitr [Hrest]
  · isplitl [Ht]; · iexact Ht
    isplitl [Hrow]; · iexact Hrow
    isplitl [Ho]; · iapply hO; iexact Ho
    iexists fs
    rw [stripe1_eq]
    iexact Hs
  · iexact Hrest

/-- THE RESULTS (their frame): the tokens back, the index table's token whole again, the eighty chunks as the worker's
    rows at some contents, the read token of the whole shared table and the kept remainder of the staged rows. -/
theorem td_conv1 (d : Dev nD) (L : grid3.Coords) (q : PosShare TreeShare) (Tx : S10000x128.Idx → F .f32) (Ix : S32x10496.Idx → BitVec 32) :
    iprop(Cert.Proof.Tile1.tdT d L q q Tx Ix ∗ (idxLoc d ↦[Finset.univ \ Cert.Proof.Tile1.iRowSet L]{q} wrI d Ix))
      ⊢ (iprop((tab1 d ↦{q} wrT1 d Tx) ∗ (idxLoc d ↦{q} wrI d Ix)
          ∗ (∃ fo, out1 d ↦[(outRect (wid (cL1 L) (jL1 L))).set]{fullShare} fo)
          ∗ (sh1 d ((cL1 L).castLE (by decide)) ↦{Transfers.shareTok fullShare 16 (jL1 L)} wrS1 d ((cL1 L).castLE (by decide)) Tx)
          ∗ (sh1 d ((cL1 L).castLE (by decide)) ↦[(stageRect (jL1 L)).set]{Transfers.shareDrop fullShare 16} wrS1 d ((cL1 L).castLE (by decide)) Tx)) : sProp 𝕄) := by
  unfold Cert.Proof.Tile1.tdT
  have hI : iprop((Cert.Proof.Tile1.iLoc d ↦[Cert.Proof.Tile1.iRowSet L]{q} Ix) ∗ (idxLoc d ↦[Finset.univ \ Cert.Proof.Tile1.iRowSet L]{q} wrI d Ix))
      ⊢ (idxLoc d ↦{q} wrI d Ix : sProp 𝕄) :=
    (pointsTo_split_subset (ℓ := idxLoc d) (q := q) (f := wrI d Ix) (Finset.subset_univ (Cert.Proof.Tile1.iRowSet L))).2
  iintro ⟨⟨Ht, Hrow, Ho, Hsk, Hsd⟩, Hrest⟩
  isplitl [Ht]; · iexact Ht
  isplitl [Hrow Hrest]
  · iapply hI
    isplitl [Hrow]; · iexact Hrow
    iexact Hrest
  isplitl [Ho]
  · iapply (Cert.Proof.Tile1.oChunks_join (F := F) (U := UU) d L (wid (cL1 L) (jL1 L)) (wid_eq1 L)); iexact Ho
  isplitl [Hsk]; · iexact Hsk
  rw [← stripe1_eq]
  iexact Hsd

/-- The worker's row of the index table, read through the kernel's view of it: entry `x` of the row is the table's
    entry `(w, x)`, `w` the worker's number. -/
theorem iRow_emb1 (L : grid3.Coords) (x : S10496.Idx) (hx : (x 0).val < 10496) :
    (Cert.Proof.Tile1.iRowK L).view.emb x = ValueIdx.ix2 (wid (cL1 L) (jL1 L)) (⟨(x 0).val, hx⟩ : Fin 10496) := by
  have hk : Shape.reshapeEquiv (s := S1x10496) (s' := S10496) (squeezes_S1x10496_S10496).numel_eq x
      = (ValueIdx.ix2 (0 : Fin 1) (⟨(x 0).val, hx⟩ : Fin 10496) : S1x10496.Idx) :=
    Shape.reshapeEquiv_eq_of_rowMajor _ (by
      show ((⟨2, ![1, 10496]⟩ : Shape).rowMajor (ValueIdx.ix2 (0 : Fin 1) (⟨(x 0).val, hx⟩ : Fin 10496)) : ℕ) = ((⟨1, ![10496]⟩ : Shape).rowMajor x : ℕ)
      rw [Shape.rowMajor_val_two, Shape.rowMajor_val_one]; simp)
  show (Rect.unit (s := S32x10496) (k3_off1 L) S1x10496.size (k3_off1_inb L)).emb
    (Shape.reshapeEquiv (s := S1x10496) (s' := S10496) (squeezes_S1x10496_S10496).numel_eq x) = _
  rw [hk]
  funext a
  refine Fin.ext ?_
  have h1 := k3_off1_eq L
  match a with
  | ⟨0, _⟩ =>
    show (k3_off1 L) 0 + 1 * 0 = 2 * (L 1).val + (L 0).val
    rw [h1]; simp
  | ⟨1, _⟩ =>
    show (k3_off1 L) 1 + 1 * (x 0).val = (x 0).val
    rw [h1]; simp

/-- Every entry of the worker's row names a row of the table, in the form the kernel's body asks it. -/
theorem hin_conv1 (L : grid3.Coords) (Ix : S32x10496.Idx → BitVec 32) (hok : IdxOk (wid (cL1 L) (jL1 L)) Ix) :
    ∀ x, ((Cert.Proof.Tile1.iRowK L).view.read (Elt F) Ix x).toNat < 10000 := by
  intro x
  rw [View.read_apply, iRow_emb1 L x (x 0).isLt]
  exact hok _

end Cert.Proof.KI

end
-- ==== Proof.ScTileAsm1.lean ====
/-
  The kernel's body on one subcore, stated over the body's own vocabulary with each result chunk at the neighbour sums,
  gives the statement the launch asks over its payloads: the kit, the operands and the scoped storage are cut the way the
  body takes them, the rest rides along beside the run, and the results are put back — the eighty chunks as the worker's
  rows at the sums.
-/
import proofs.«205366_g3083786518796_cont_9to1_852_38_alg».proof.Proof.ScTileParts1
import proofs.«205366_g3083786518796_cont_9to1_852_38_alg».proof.Proof.GSum

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-- What the body hands back, each result chunk at the neighbour sums of the table over the index table. -/
def tdTv1 (d : Dev nD) (L : grid3.Coords) (qx qi : PosShare TreeShare) (Tx : S10000x128.Idx → F .f32) (Ix : S32x10496.Idx → BitVec 32) : sProp 𝕄 :=
  iprop((Cert.Proof.Tile1.xLoc d ↦{qx} Tx) ∗ (Cert.Proof.Tile1.iLoc d ↦[Cert.Proof.Tile1.iRowSet L]{qi} Ix)
    ∗ (bigSep Finset.univ fun tb : Fin k3_t1_loop.trips × Fin 2 =>
        iprop(∃ f, (Cert.Proof.Tile1.oLoc d ↦[Cert.Proof.Tile1.oChunkSet L tb.1 tb.2]{fullShare} f)
          ∗ ⌜∀ x ∈ Cert.Proof.Tile1.oChunkSet L tb.1 tb.2, f x = gsumF Tx Ix x⌝))
    ∗ (Cert.Proof.Tile1.shLoc d (Cert.Proof.Tile1.cV L) ↦{Cert.Proof.Tile1.shTok (Cert.Proof.Tile1.jV L)} Tx)
    ∗ (Cert.Proof.Tile1.shLoc d (Cert.Proof.Tile1.cV L) ↦[Cert.Proof.Tile1.stripe (Cert.Proof.Tile1.jL L)]{Cert.Proof.Tile1.shKeep} Tx))

/-- The three scratches of the task, each whole at some contents; its six semaphores at zero. -/
abbrev scr3c1 (d : Dev nD) (L : grid3.Coords) : sProp 𝕄 :=
  iprop((∃ f, (V d (Cert.Proof.Tile1.cV L) (Cert.Proof.Tile1.jV L)).loc cc3_scratch0 ↦{fullShare} f)
    ∗ (∃ f, (V d (Cert.Proof.Tile1.cV L) (Cert.Proof.Tile1.jV L)).loc cc3_scratch1 ↦{fullShare} f)
    ∗ (∃ f, (V d (Cert.Proof.Tile1.cV L) (Cert.Proof.Tile1.jV L)).loc cc3_scratch2 ↦{fullShare} f))
abbrev sem6c1 (d : Dev nD) (L : grid3.Coords) : sProp 𝕄 :=
  iprop(semVal (Cert.Proof.Tile1.cell d L cc3_scoped0.sem) 0 ∗ semVal (Cert.Proof.Tile1.cell d L cc3_scoped1.sem) 0
    ∗ semVal (Cert.Proof.Tile1.cell d L Cert.Proof.Tile1.g0sem) 0 ∗ semVal (Cert.Proof.Tile1.cell d L Cert.Proof.Tile1.g1sem) 0
    ∗ semVal (Cert.Proof.Tile1.cell d L Cert.Proof.Tile1.o0sem) 0 ∗ semVal (Cert.Proof.Tile1.cell d L Cert.Proof.Tile1.o1sem) 0)

/-- THE BODY'S STATEMENT for call 0 in the body's own vocabulary, over the launch's barrier schedule, with the valued post. -/
def TileStmt1 : Prop :=
  ∀ (d : Dev nD) (L : grid3.Coords) (qx qi : PosShare TreeShare) (fo : S10240x128.Idx → F .f32)
    (O : CellTallies nD τ sig (HIx 3)) (W : Waits sig (HIx 3)), (∀ g, O g none = 0) →
    (∀ g ι, 0 < O g ι → 8 * (1 : Fin 3).val + 6 ≤ (K (F := F)).lev g ι) →
    (∀ x, ((Cert.Proof.Tile1.iRowK L).view.read (Elt F) (Ib d) x).toNat < 10000) →
    iprop(levAts (K (F := F)).L (K (F := F)).lev ∗ kitR1 (F := F) (bRd (F := F) Tb) 1 1 d (Cert.Proof.Tile1.cV L) (Cert.Proof.Tile1.jV L)
        ∗ Cert.Proof.Tile1.goT d L qx qi (Tb 1 d) (Ib d) fo ∗ scr3c1 (F := F) d L ∗ sem6c1 (F := F) d L
        ∗ owes (V d (Cert.Proof.Tile1.cV L) (Cert.Proof.Tile1.jV L)) (O + oxV 1 d (Cert.Proof.Tile1.cV L)) W)
      ⊢ wp frame (wpE (defs₀ (F := F)) 𝒱₀ (V d (Cert.Proof.Tile1.cV L) (Cert.Proof.Tile1.jV L)) none) Set.univ
          (cc3__sc_gather_sum L (Memref.whole main_v11_0_scv) (Memref.isWhole_whole _) (Memref.whole main_v7_scv) (Memref.isWhole_whole _)
            (Memref.whole main_v12_scv) (Memref.isWhole_whole _) (Memref.whole cc3_scratch0) (Memref.isWhole_whole _)
            (Memref.whole cc3_scratch1) (Memref.isWhole_whole _) (Memref.whole cc3_scratch2) (Memref.isWhole_whole _)
            (Memref.whole cc3_scratch3) (Memref.isWhole_whole _) cc3_scratch4 cc3_scratch5 cc3_scoped0 cc3_scoped1)
          fun _ => iprop(tdTv1 (F := F) d L qx qi (Tb 1 d) (Ib d)
            ∗ (atPos EB (bcell d (Cert.Proof.Tile1.cV L) (Cert.Proof.Tile1.jV L)) (1 + 1) (∅ : Finset ℕ) 0
                ∗ reached (D := ℕ) EB (bcell d (Cert.Proof.Tile1.cV L) (Cert.Proof.Tile1.jV L)) (1 + 1))
            ∗ scr3c1 (F := F) d L ∗ sem6c1 (F := F) d L
            ∗ ∃ W', ⌜∀ p ∈ W', p ∈ W ∨ p.2 = none ∨ p.2 = some (1 : Fin 3)⌝ ∗ owes (V d (Cert.Proof.Tile1.cV L) (Cert.Proof.Tile1.jV L)) O W')

/-- The eighty valued chunks are the worker's rows at contents related to the table and the index table as the launch asks. -/
def ChunksVal1 : Prop :=
  ∀ (d : Dev nD) (L : grid3.Coords) (Tx : S10000x128.Idx → F .f32) (Ix : S32x10496.Idx → BitVec 32),
    (bigSep Finset.univ fun tb : Fin k3_t1_loop.trips × Fin 2 =>
        (iprop(∃ f, (Cert.Proof.Tile1.oLoc d ↦[Cert.Proof.Tile1.oChunkSet L tb.1 tb.2]{fullShare} f)
          ∗ ⌜∀ x ∈ Cert.Proof.Tile1.oChunkSet L tb.1 tb.2, f x = gsumF Tx Ix x⌝) : sProp 𝕄))
      ⊢ (iprop(∃ fo, (out1 d ↦[(outRect (wid (cL1 L) (jL1 L))).set]{fullShare} fo) ∗ ⌜SumRel (wid (cL1 L) (jL1 L)) Tx Ix (rdO1 d fo)⌝) : sProp 𝕄)

set_option maxRecDepth 16384 in
set_option maxHeartbeats 1000000 in
/-- THE ASSEMBLY for call 0: the launch's statement of the body from the body's own. -/
theorem bodySpec1_of_tile (ht : TileStmt1 (F := F) Tb Ib) (he : ChunksVal1 (F := F)) : BodySpec1 (F := F) Tb Ib := by
  intro d L O W hO hOlev
  have hgo : goQ Tb Ib 1 d (cL1 L) (jL1 L)
      = goPay (tab1 d) (idxLoc d) (out1 d) (sh1 d) (fun _ n => (stageRect n).set) (fun w => (outRect w).set) (wrT1 d) (wrI d) (Tb 1 d) (Ib d) 1 d (cL1 L) (jL1 L) := rfl
  have htd : tdQ Tb Ib 1 d (cL1 L) (jL1 L)
      = tdPay (tab1 d) (idxLoc d) (out1 d) (sh1 d) (fun _ n => (stageRect n).set) (fun w => (outRect w).set) (wrT1 d) (wrI d) (rdO1 d) (wrS1 d) (Tb 1 d) (Ib d) 1 d (cL1 L) (jL1 L) := rfl
  rw [hgo, htd, (K (F := F)).scopedBufs_V facts d (Cert.Proof.Tile1.cV L) (Cert.Proof.Tile1.jV L),
    SparseCore.Cfg.scopedSems0_V (Val := Elt F) d (Cert.Proof.Tile1.cV L) (Cert.Proof.Tile1.jV L),
    Cert.Proof.Tile1.ownSems0_V (F := F) (U := UU) d L, Cert.Proof.Tile1.ownBufs_V (F := F) (U := UU) d L]
  unfold goPay tdPay barCarry
  iintro ⟨#Hlv, Hkit, ⟨Ht, Hi, %hok, ⟨%fo, Ho⟩, Hs, Hat, #Hre⟩, ⟨Hb0, Hb1, Hb2, Hbrest⟩, ⟨Hs0, Hs1, Hs2, Hs3, Hs4, Hs5, Hsrest⟩, HO⟩
  ihave Hk := (kit_conv1 (F := F) Tb d L) $$ [Hkit Hat]
  · isplitl [Hkit]; · iexact Hkit
    isplitl [Hat]; · iexact Hat
    iexact Hre
  ihave Hg := (go_conv1 (F := F) d L (tileShare (cL1 L) (jL1 L)) (Tb 1 d) (Ib d) fo) $$ [Ht Hi Ho Hs]
  · isplitl [Ht]; · iexact Ht
    isplitl [Hi]; · iexact Hi
    isplitl [Ho]; · iexact Ho
    iexact Hs
  icases Hg with ⟨Hgo, Hirest⟩
  iapply (wp_wand_r frame (wpE (defs₀ (F := F)) 𝒱₀ (V d (Cert.Proof.Tile1.cV L) (Cert.Proof.Tile1.jV L)) none) Set.univ)
  isplitl [Hk Hgo Hb0 Hb1 Hb2 Hs0 Hs1 Hs2 Hs3 Hs4 Hs5 HO]
  · iapply (ht d L (tileShare (cL1 L) (jL1 L)) (tileShare (cL1 L) (jL1 L)) fo O W hO hOlev (hin_conv1 (F := F) L (Ib d) hok))
    isplitr; · iexact Hlv
    isplitl [Hk]; · iexact Hk
    isplitl [Hgo]; · iexact Hgo
    isplitl [Hb0 Hb1 Hb2]
    · isplitl [Hb0]; · iexact Hb0
      isplitl [Hb1]; · iexact Hb1
      iexact Hb2
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    iexact HO
  iintro %_ ⟨Htd, ⟨Hat1, Hre1⟩, ⟨Hb0, Hb1, Hb2⟩, ⟨Hs0, Hs1, Hs2, Hs3, Hs4, Hs5⟩, HW⟩
  unfold tdTv1
  icases Htd with ⟨Ht, Hrow, Hch, Hsk, Hsd⟩
  ihave Ho := (he d L (Tb 1 d) (Ib d)) $$ Hch
  have hI : iprop((Cert.Proof.Tile1.iLoc d ↦[Cert.Proof.Tile1.iRowSet L]{tileShare (cL1 L) (jL1 L)} Ib d)
        ∗ (idxLoc d ↦[Finset.univ \ Cert.Proof.Tile1.iRowSet L]{tileShare (cL1 L) (jL1 L)} wrI d (Ib d)))
      ⊢ (idxLoc d ↦{tileShare (cL1 L) (jL1 L)} wrI d (Ib d) : sProp 𝕄) :=
    (pointsTo_split_subset (ℓ := idxLoc d) (q := tileShare (cL1 L) (jL1 L)) (f := wrI d (Ib d)) (Finset.subset_univ (Cert.Proof.Tile1.iRowSet L))).2
  have hSd : (Cert.Proof.Tile1.shLoc d (Cert.Proof.Tile1.cV L) ↦[Cert.Proof.Tile1.stripe (Cert.Proof.Tile1.jL L)]{Cert.Proof.Tile1.shKeep} Tb 1 d : sProp 𝕄)
      ⊢ (sh1 d (Cert.Proof.Tile1.cV L) ↦[(stageRect (jL1 L)).set]{Transfers.shareDrop fullShare 16} wrS1 d (Cert.Proof.Tile1.cV L) (Tb 1 d) : sProp 𝕄) := by
    rw [stripe1_eq]
  isplitl [Ht Hrow Hirest Ho Hsk Hsd Hat1 Hre1]
  · isplitl [Ht]; · iexact Ht
    isplitl [Hrow Hirest]
    · iapply hI
      isplitl [Hrow]; · iexact Hrow
      iexact Hirest
    isplitl [Ho]; · iexact Ho
    isplitl [Hsk]; · iexact Hsk
    isplitl [Hsd]
    · iapply hSd; iexact Hsd
    isplitl [Hat1]; · iexact Hat1
    iexact Hre1
  isplitl [Hb0 Hb1 Hb2 Hbrest]
  · isplitl [Hb0]; · iexact Hb0
    isplitl [Hb1]; · iexact Hb1
    isplitl [Hb2]; · iexact Hb2
    iexact Hbrest
  isplitl [Hs0 Hs1 Hs2 Hs3 Hs4 Hs5 Hsrest]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsrest
  iexact HW

end Cert.Proof.KI

end
-- ==== Proof.BodyOwnC2.lean ====
/-
  A subcore's own semaphores and buffers, with the ones its task uses picked out.

  The launch hands a vector subcore every semaphore scoped to it at zero and every buffer it owns at some contents.
  The gather-sum task uses six of the semaphores (the two of its scoped regions, the two gather slots and the two
  write-out slots) and three of the buffers (the index, row and result scratches); the rest is carried along.
-/
import proofs.«205366_g3083786518796_cont_9to1_852_38_alg».proof.Proof.BodyDefsC2
import proofs.«205366_g3083786518796_cont_9to1_852_38_alg».proof.Proof.BodyLemmasC2

noncomputable section

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
variable [FloatOps F]
variable {U : Type} [URA U] [CountersIn U]

local notation "𝕄" => MT nD τ sig (HIx 3) (Elt F) ℕ U ℕ

variable (d : Dev nD) (L : grid5.Coords)

theorem cell_mem (sm : DmaSem sig) (h : (SemLoc.dma sm : SemLoc sig).isScoped .scVector = true) :
    cell d L sm ∈ ownCells (V d (cV L) (jV L)) := (mem_ownCells (g := cell d L sm)).mpr ⟨rfl, h⟩

theorem cell_ne {sm sm' : DmaSem sig} (h : sm ≠ sm') : cell d L sm ≠ cell d L sm' :=
  fun e => h (SemLoc.dma.inj (Prod.mk.inj e).2)

/-- The subcore's scoped semaphores at zero: the six its task uses, and the rest. -/
theorem ownSems0_V :
    (ownSems0 (V d (cV L) (jV L)) : sProp 𝕄)
      = iprop(semVal (cell d L cc5_scoped0.sem) 0 ∗ semVal (cell d L cc5_scoped1.sem) 0 ∗ semVal (cell d L g0sem) 0 ∗ semVal (cell d L g1sem) 0
          ∗ semVal (cell d L o0sem) 0 ∗ semVal (cell d L o1sem) 0
          ∗ bigSep (((((((ownCells (V d (cV L) (jV L))).erase (cell d L cc5_scoped0.sem)).erase (cell d L cc5_scoped1.sem)).erase (cell d L g0sem)).erase (cell d L g1sem)).erase
              (cell d L o0sem)).erase (cell d L o1sem)) fun g => semVal g 0) := by
  unfold SparseCore.Cfg.ownSems0
  rw [SparseCore.bigSep_erase' (cell_mem d L cc5_scoped0.sem (by decide)),
    SparseCore.bigSep_erase' (Finset.mem_erase.mpr ⟨cell_ne d L (by decide), cell_mem d L cc5_scoped1.sem (by decide)⟩),
    SparseCore.bigSep_erase' (Finset.mem_erase.mpr ⟨cell_ne d L (by decide), Finset.mem_erase.mpr ⟨cell_ne d L (by decide), cell_mem d L g0sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L g1sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L o0sem (by decide)⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
        Finset.mem_erase.mpr ⟨cell_ne d L (by decide), cell_mem d L o1sem (by decide)⟩⟩⟩⟩⟩)]

theorem scratch_mem (b : Ref sig .scVector) (h : ((Proc.scVector (cV L) (jV L)).devRef b : DevRef τ sig).owner = .proc (Proc.scVector (cV L) (jV L))) :
    (Proc.scVector (cV L) (jV L)).devRef b ∈ ownRefs (τ := τ) (sig := sig) (.scVector (cV L) (jV L)) :=
  SparseCore.Cfg.mem_ownRefs_of_owner h

/-- The subcore's own buffers at some contents: the three scratches its task uses, and the rest. -/
theorem ownBufs_V :
    (ownBufs (V d (cV L) (jV L)) : sProp 𝕄)
      = iprop((∃ f, (V d (cV L) (jV L)).loc cc5_scratch0 ↦{fullShare} f) ∗ (∃ f, (V d (cV L) (jV L)).loc cc5_scratch1 ↦{fullShare} f)
          ∗ (∃ f, (V d (cV L) (jV L)).loc cc5_scratch2 ↦{fullShare} f)
          ∗ bigSep ((((ownRefs (τ := τ) (.scVector (cV L) (jV L))).erase ((Proc.scVector (cV L) (jV L)).devRef cc5_scratch0)).erase
              ((Proc.scVector (cV L) (jV L)).devRef cc5_scratch1)).erase ((Proc.scVector (cV L) (jV L)).devRef cc5_scratch2))
              fun b => iprop(∃ f, ((d, b) : Loc nD τ sig) ↦{fullShare} f)) := by
  unfold SparseCore.Cfg.ownBufs
  rw [SparseCore.bigSep_erase' (scratch_mem L cc5_scratch0 rfl),
    SparseCore.bigSep_erase' (Finset.mem_erase.mpr ⟨fun e => absurd (Proc.devRef_injective _ e) (show (cc5_scratch1 : Ref sig .scVector) ≠ cc5_scratch0 by decide), scratch_mem L cc5_scratch1 rfl⟩),
    SparseCore.bigSep_erase' (Finset.mem_erase.mpr ⟨fun e => absurd (Proc.devRef_injective _ e) (show (cc5_scratch2 : Ref sig .scVector) ≠ cc5_scratch1 by decide),
      Finset.mem_erase.mpr ⟨fun e => absurd (Proc.devRef_injective _ e) (show (cc5_scratch2 : Ref sig .scVector) ≠ cc5_scratch0 by decide), scratch_mem L cc5_scratch2 rfl⟩⟩)]

end Cert.Proof.Tile2

end
-- ==== Proof.BodyCoverC2.lean ====
/-
  A worker's output rows as its eighty result chunks.

  Trip t (of forty) and slot b (of two) of subcore L write the four rows 320·w + 8·t + 4·b … + 3 of the padded
  output, w = 2·(L 1) + (L 0) the worker's number.  For a fixed worker these eighty row ranges are pairwise
  disjoint and their union is the worker's 320 rows 320·w … 320·w + 319; so owning the worker's rows outright is
  owning the eighty chunks, and eighty chunks each at some contents join into the rows at some contents.
-/
import proofs.«205366_g3083786518796_cont_9to1_852_38_alg».proof.Proof.BodyDefsC2
import proofs.«205366_g3083786518796_cont_9to1_852_38_alg».proof.Proof.BodyLemmasC2
import proofs.«205366_g3083786518796_cont_9to1_852_38_alg».proof.Proof.ScPay

noncomputable section

namespace Cert.Proof.Tile2

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}
variable [FloatOps F]
variable {U : Type} [URA U] [CountersIn U]

local notation "𝕄" => MT nD τ sig (HIx 3) (Elt F) ℕ U ℕ

/-- The loop runs forty trips. -/
theorem trips_eq : k5_t1_loop.trips = 40 := by decide

theorem oChunkSet_eq (L : grid5.Coords) (t : Fin k5_t1_loop.trips) (b : Fin 2) :
    oChunkSet L t b = (Rect.unit (s := S10240x128) (k5_off20 L t (BitVec.ofNat 32 b.val)) S4x128.size (k5_off20_inb L t b)).set :=
  View.set_slice_whole _ _

/-- A chunk is four whole rows. -/
theorem mem_oChunkSet (L : grid5.Coords) (t : Fin k5_t1_loop.trips) (b : Fin 2) (x : S10240x128.Idx) :
    x ∈ oChunkSet L t b ↔ 640 * (L 1).val + 320 * (L 0).val + 8 * t.val + 4 * b.val ≤ (x 0 : ℕ)
      ∧ (x 0 : ℕ) < 640 * (L 1).val + 320 * (L 0).val + 8 * t.val + 4 * b.val + 4 := by
  rw [oChunkSet_eq, Rect.mem_set_unit, k5_off20_eq]
  constructor
  · intro h; have := h 0; simpa using this
  · intro h a
    match a with
    | 0 => simpa using h
    | 1 => exact ⟨Nat.zero_le _, by simpa using (x 1).isLt⟩

/-- A worker's rows. -/
theorem mem_outRect (w : Fin 32) (x : S10240x128.Idx) :
    x ∈ (Cert.Proof.KI.outRect w).set ↔ 320 * w.val ≤ (x 0 : ℕ) ∧ (x 0 : ℕ) < 320 * w.val + 320 := by
  unfold Cert.Proof.KI.outRect
  rw [Rect.mem_set_unit]
  constructor
  · intro h; have := h 0; simpa using this
  · intro h a
    match a with
    | 0 => simpa using h
    | 1 => exact ⟨Nat.zero_le _, by simpa using (x 1).isLt⟩

theorem oChunks_disjoint (L : grid5.Coords) :
    ∀ tb ∈ (Finset.univ : Finset (Fin k5_t1_loop.trips × Fin 2)), ∀ tb' ∈ (Finset.univ : Finset (Fin k5_t1_loop.trips × Fin 2)),
      tb ≠ tb' → Disjoint (oChunkSet L tb.1 tb.2) (oChunkSet L tb'.1 tb'.2) := by
  rintro ⟨t, b⟩ - ⟨t', b'⟩ - hne
  rw [Finset.disjoint_left]
  intro x h h'
  rw [mem_oChunkSet] at h h'
  have hd : t.val ≠ t'.val ∨ b.val ≠ b'.val := by
    by_contra hh
    have hh' := not_or.mp hh
    exact hne (Prod.ext (Fin.ext (not_not.mp hh'.1)) (Fin.ext (not_not.mp hh'.2)))
  have hb := b.isLt
  have hb' := b'.isLt
  dsimp only at h h'
  omega

theorem oChunks_cover (L : grid5.Coords) (w : Fin 32) (hw : w.val = 2 * (L 1).val + (L 0).val) :
    (Finset.univ : Finset (Fin k5_t1_loop.trips × Fin 2)).biUnion (fun tb => oChunkSet L tb.1 tb.2) = (Cert.Proof.KI.outRect w).set := by
  ext x
  simp only [Finset.mem_biUnion, Finset.mem_univ, true_and]
  rw [mem_outRect]
  constructor
  · rintro ⟨⟨t, b⟩, h⟩
    rw [mem_oChunkSet] at h
    have ht : t.val < 40 := lt_of_lt_of_eq t.isLt trips_eq
    have hb := b.isLt
    dsimp only at h
    omega
  · intro h
    refine ⟨(⟨((x 0 : ℕ) - 320 * w.val) / 8, by rw [trips_eq]; omega⟩, ⟨(((x 0 : ℕ) - 320 * w.val) % 8) / 4, by omega⟩), (mem_oChunkSet _ _ _ _).mpr ?_⟩
    dsimp only
    omega

/-- A worker's rows owned outright are its eighty chunks. -/
theorem oPts_chunks (d : Dev nD) (L : grid5.Coords) (w : Fin 32) (hw : w.val = 2 * (L 1).val + (L 0).val) (f : Buf (Elt F) (oLoc d)) :
    (oLoc d ↦[(Cert.Proof.KI.outRect w).set]{fullShare} f : sProp 𝕄)
      = bigSep Finset.univ fun tb : Fin k5_t1_loop.trips × Fin 2 => oLoc d ↦[oChunkSet L tb.1 tb.2]{fullShare} f := by
  rw [← pointsTo_biUnion Finset.univ (ℓ := oLoc d) (fun tb : Fin k5_t1_loop.trips × Fin 2 => oChunkSet L tb.1 tb.2) (oChunks_disjoint L),
    oChunks_cover L w hw]

/-- Eighty chunks, each at some contents, are the worker's rows at some contents. -/
theorem oChunks_join (d : Dev nD) (L : grid5.Coords) (w : Fin 32) (hw : w.val = 2 * (L 1).val + (L 0).val) :
    (bigSep Finset.univ fun tb : Fin k5_t1_loop.trips × Fin 2 => iprop(∃ f, oLoc d ↦[oChunkSet L tb.1 tb.2]{fullShare} f))
      ⊢ (iprop(∃ f, oLoc d ↦[(Cert.Proof.KI.outRect w).set]{fullShare} f) : sProp 𝕄) := by
  refine (bigSep_exists_pi Finset.univ (fun (tb : Fin k5_t1_loop.trips × Fin 2) (f : Buf (Elt F) (oLoc d)) =>
    (oLoc d ↦[oChunkSet L tb.1 tb.2]{fullShare} f : sProp 𝕄))).trans ?_
  iintro ⟨%fs, H⟩
  ihave H' := (pointsTo_biUnion_join Finset.univ (fun tb : Fin k5_t1_loop.trips × Fin 2 => oChunkSet L tb.1 tb.2) fs
    (fs (⟨0, by rw [trips_eq]; omega⟩, 0)) (oChunks_disjoint L)) $$ H
  icases H' with ⟨%g, -, Hg⟩
  rw [oChunks_cover L w hw]
  iexists g; iexact Hg

end Cert.Proof.Tile2

end
-- ==== Proof.ScTileParts2.lean ====
/-
  The parts of a vector subcore's task obligation that do not depend on the kernel's body: the reduction of the launch's
  obligation to a statement about the body on one subcore; the tile's scoped storage split into what the task uses and
  the rest; the launch's barrier kit in the body's indexing; the task's operands cut the way the body takes them (the
  index table's row out of the whole table, the output rows as the eighty chunks, the staged rows as the stripe) and
  the results put back.
-/
import proofs.«205366_g3083786518796_cont_9to1_852_38_alg».proof.Proof.ScPay
import proofs.«205366_g3083786518796_cont_9to1_852_38_alg».proof.Proof.BodyDefsC2
import proofs.«205366_g3083786518796_cont_9to1_852_38_alg».proof.Proof.BodyLemmasC2
import proofs.«205366_g3083786518796_cont_9to1_852_38_alg».proof.Proof.BodyOwnC2
import proofs.«205366_g3083786518796_cont_9to1_852_38_alg».proof.Proof.BodyCoverC2
import proofs.«205366_g3083786518796_cont_9to1_852_38_alg».proof.Proof.ScBarPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-! ## Call 0 -/

/-- The subcore's coordinates as the launch payloads index them. -/
abbrev cL2 (L : grid5.Coords) : Fin 2 := Fin.cast (by decide) (L 0)
abbrev jL2 (L : grid5.Coords) : Fin 16 := Fin.cast (by decide) (L 1)

theorem defs₀_vector2 (c : Fin τ.nSC) (s : Fin τ.nSub) :
    defs₀ (F := F) (.scVector c s) 5 ()
      = SparseCore.onTile hcore5 hsub5 (fun c s => cc5__sc_gather_sum (Cert.Proof.Tile2.coordsV c s)
          (Memref.whole main_v14_0_scv) (Memref.isWhole_whole _) (Memref.whole main_v7_scv) (Memref.isWhole_whole _)
          (Memref.whole main_v15_scv) (Memref.isWhole_whole _) (Memref.whole cc5_scratch0) (Memref.isWhole_whole _)
          (Memref.whole cc5_scratch1) (Memref.isWhole_whole _) (Memref.whole cc5_scratch2) (Memref.isWhole_whole _)
          (Memref.whole cc5_scratch3) (Memref.isWhole_whole _) cc5_scratch4 cc5_scratch5 cc5_scoped0 cc5_scoped1) ⟨⟩ c s := rfl

/-- THE BODY'S STATEMENT for call 0, over the launch's payloads: the kernel on vector subcore `L`, from its barrier kit, its
    task's operands, its scoped storage and what it owes, to the task's results. -/
def BodySpec2 : Prop :=
  ∀ (d : Dev nD) (L : grid5.Coords) (O : CellTallies nD τ sig (HIx 3)) (W : Waits sig (HIx 3)), (∀ g, O g none = 0) →
    (∀ g ι, 0 < O g ι → 8 * (2 : Fin 3).val + 6 ≤ (K (F := F)).lev g ι) →
    iprop(levAts (K (F := F)).L (K (F := F)).lev ∗ bkit (F := F) Tb 2 d (Cert.Proof.Tile2.cV L) (Cert.Proof.Tile2.jV L)
        ∗ goQ Tb Ib 2 d (cL2 L) (jL2 L)
        ∗ scopedBufs (V d (Cert.Proof.Tile2.cV L) (Cert.Proof.Tile2.jV L)) ∗ scopedSems0 (V d (Cert.Proof.Tile2.cV L) (Cert.Proof.Tile2.jV L))
        ∗ owes (V d (Cert.Proof.Tile2.cV L) (Cert.Proof.Tile2.jV L)) (O + oxV 2 d (Cert.Proof.Tile2.cV L)) W)
      ⊢ wp frame (wpE (defs₀ (F := F)) 𝒱₀ (V d (Cert.Proof.Tile2.cV L) (Cert.Proof.Tile2.jV L)) none) Set.univ
          (cc5__sc_gather_sum L (Memref.whole main_v14_0_scv) (Memref.isWhole_whole _) (Memref.whole main_v7_scv) (Memref.isWhole_whole _)
            (Memref.whole main_v15_scv) (Memref.isWhole_whole _) (Memref.whole cc5_scratch0) (Memref.isWhole_whole _)
            (Memref.whole cc5_scratch1) (Memref.isWhole_whole _) (Memref.whole cc5_scratch2) (Memref.isWhole_whole _)
            (Memref.whole cc5_scratch3) (Memref.isWhole_whole _) cc5_scratch4 cc5_scratch5 cc5_scoped0 cc5_scoped1)
          fun _ => iprop(tdQ Tb Ib 2 d (cL2 L) (jL2 L)
            ∗ scopedBufs (V d (Cert.Proof.Tile2.cV L) (Cert.Proof.Tile2.jV L)) ∗ scopedSems0 (V d (Cert.Proof.Tile2.cV L) (Cert.Proof.Tile2.jV L))
            ∗ ∃ W', ⌜∀ p ∈ W', p ∈ W ∨ p.2 = none ∨ p.2 = some (2 : Fin 3)⌝ ∗ owes (V d (Cert.Proof.Tile2.cV L) (Cert.Proof.Tile2.jV L)) O W')

set_option maxRecDepth 16384 in
/-- The launch's obligation for call 0 from the body's statement. -/
theorem tileObl2_of_body (hbody : BodySpec2 (F := F) Tb Ib) : (K (F := F)).TileObl (D (F := F)) 𝒱 (P (F := F) Tb Ib) v₀ 2 := by
  intro d c i O W hO hOlev _
  have hci : ((K (F := F)).core 2 c).val < grid5.bound 0 ∧ ((K (F := F)).sub 2 i).val < grid5.bound 1 := ⟨c.isLt, i.isLt⟩
  rw [show (P (F := F) Tb Ib).ox 2 (V d ((K (F := F)).core 2 c) ((K (F := F)).sub 2 i)) = oxV 2 d ((K (F := F)).core 2 c) from rfl,
    show (P (F := F) Tb Ib).x 2 (V d ((K (F := F)).core 2 c) ((K (F := F)).sub 2 i)) = bkit (F := F) Tb 2 d ((K (F := F)).core 2 c) ((K (F := F)).sub 2 i) from rfl]
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact hbody d (Cert.Proof.Tile2.coordsV ⟨_, hci.1⟩ ⟨_, hci.2⟩) O W hO hOlev

/-! ## The scoped storage: the three scratches and six semaphores the task uses, and the rest -/

/-- A vector subcore's scoped buffers and semaphores, as the launch hands them: the task's three scratches at some
    contents, its six semaphores at zero, and the rest of each. -/
theorem scoped_split2 (d : Dev nD) (L : grid5.Coords) :
    (iprop(scopedBufs (V d (Cert.Proof.Tile2.cV L) (Cert.Proof.Tile2.jV L)) ∗ scopedSems0 (V d (Cert.Proof.Tile2.cV L) (Cert.Proof.Tile2.jV L))) : sProp 𝕄)
      = iprop(ownBufs (V d (Cert.Proof.Tile2.cV L) (Cert.Proof.Tile2.jV L)) ∗ ownSems0 (V d (Cert.Proof.Tile2.cV L) (Cert.Proof.Tile2.jV L))) := by
  rw [(K (F := F)).scopedBufs_V facts d (Cert.Proof.Tile2.cV L) (Cert.Proof.Tile2.jV L),
    SparseCore.Cfg.scopedSems0_V (Val := Elt F) d (Cert.Proof.Tile2.cV L) (Cert.Proof.Tile2.jV L)]

/-! ## The barrier kit, in the body's indexing -/

/-- The barrier kit as the kernel's body takes it, over any schedule: every cell's invariant, the tile's duty token in
    every cell's round, that every cell has reached the round, the tile's own position, and the credit for its round. -/
def kitR2 (Rd : Rounds.Schedule (GSem nD τ sig) ℕ 𝕄) (r : ℕ) (q : Fin 3) (d : Dev nD) (c : Fin τ.nSC) (i : Fin τ.nSub) : sProp 𝕄 :=
  iprop((∃ κ : GSem nD τ sig → ℕ, bigSep Finset.univ fun j : Fin (grid5.bound 1) =>
      cellInv EB Rd (κ (bcell d c (j.castLE hsub5))) (bcell d c (j.castLE hsub5)))
    ∗ (bigSep Finset.univ fun j : Fin (grid5.bound 1) => dutyTok EB (bcell d c (j.castLE hsub5)) r i.val)
    ∗ (bigSep Finset.univ fun j : Fin (grid5.bound 1) => reached (D := ℕ) EB (bcell d c (j.castLE hsub5)) r)
    ∗ atPos EB (bcell d c i) r (∅ : Finset ℕ) 0
    ∗ cred (tallyAt (bcell d c i) (some q) (grid5.bound 1)))

/-- The launch's kit for call 0 with the tile's position and the sixteen "reached" its operands carry is the body's kit. -/
theorem kit_conv2 (d : Dev nD) (L : grid5.Coords) :
    iprop(bkit (F := F) Tb 2 d (Cert.Proof.Tile2.cV L) (Cert.Proof.Tile2.jV L)
        ∗ atPos EB (bcell d ((cL2 L).castLE (by decide)) ((jL2 L).castLE (by decide))) 2 ∅ 0
        ∗ bigSep Finset.univ fun j : Fin 16 => reached EB (bcell d ((cL2 L).castLE (by decide)) (j.castLE (by decide))) 2)
      ⊢ kitR2 (F := F) (bRd (F := F) Tb) 2 2 d (Cert.Proof.Tile2.cV L) (Cert.Proof.Tile2.jV L) := by
  unfold bkit kitR2
  iintro ⟨⟨Hinv, Htok, Hcred⟩, Hat, Hre⟩
  isplitl [Hinv]; · iexact Hinv
  isplitl [Htok]; · iexact Htok
  isplitl [Hre]; · iexact Hre
  isplitl [Hat]; · iexact Hat
  iexact Hcred

/-! ## The task's operands, cut the way the body takes them, and its results put back -/

/-- Tile `(c, i)`'s worker number is the body's. -/
theorem wid_eq2 (L : grid5.Coords) : (wid (cL2 L) (jL2 L)).val = 2 * (L 1).val + (L 0).val := rfl

/-- THE OPERANDS: the table's token, the index table's token (the worker's row out of it, the rest kept), the worker's
    output rows as its eighty chunks, and the staged rows as the stripe. -/
theorem go_conv2 (d : Dev nD) (L : grid5.Coords) (q : PosShare TreeShare) (Tx : S10000x128.Idx → F .f32) (Ix : S32x10496.Idx → BitVec 32)
    (fo : S10240x128.Idx → F .f32) :
    iprop((tab2 d ↦{q} wrT2 d Tx) ∗ (idxLoc d ↦{q} wrI d Ix) ∗ (out2 d ↦[(outRect (wid (cL2 L) (jL2 L))).set]{fullShare} fo)
        ∗ (∃ fs, sh2 d ((cL2 L).castLE (by decide)) ↦[(stageRect (jL2 L)).set]{fullShare} fs))
      ⊢ (iprop(Cert.Proof.Tile2.goT d L q q Tx Ix fo
          ∗ (idxLoc d ↦[Finset.univ \ Cert.Proof.Tile2.iRowSet L]{q} wrI d Ix)) : sProp 𝕄) := by
  unfold Cert.Proof.Tile2.goT
  have hI : (idxLoc d ↦{q} wrI d Ix : sProp 𝕄)
      ⊢ iprop((Cert.Proof.Tile2.iLoc d ↦[Cert.Proof.Tile2.iRowSet L]{q} Ix) ∗ (idxLoc d ↦[Finset.univ \ Cert.Proof.Tile2.iRowSet L]{q} wrI d Ix)) :=
    (pointsTo_split_subset (ℓ := idxLoc d) (q := q) (f := wrI d Ix) (Finset.subset_univ (Cert.Proof.Tile2.iRowSet L))).1
  have hO : (out2 d ↦[(outRect (wid (cL2 L) (jL2 L))).set]{fullShare} fo : sProp 𝕄)
      ⊢ bigSep Finset.univ fun tb : Fin k5_t1_loop.trips × Fin 2 => (Cert.Proof.Tile2.oLoc d ↦[Cert.Proof.Tile2.oChunkSet L tb.1 tb.2]{fullShare} fo : sProp 𝕄) :=
    Entails.of_eq (Cert.Proof.Tile2.oPts_chunks (F := F) (U := UU) d L (wid (cL2 L) (jL2 L)) (wid_eq2 L) fo)
  iintro ⟨Ht, Hi, Ho, ⟨%fs, Hs⟩⟩
  ihave Hi' := hI $$ Hi
  icases Hi' with ⟨Hrow, Hrest⟩
  isplitr [Hrest]
  · isplitl [Ht]; · iexact Ht
    isplitl [Hrow]; · iexact Hrow
    isplitl [Ho]; · iapply hO; iexact Ho
    iexists fs
    rw [stripe2_eq]
    iexact Hs
  · iexact Hrest

/-- THE RESULTS (their frame): the tokens back, the index table's token whole again, the eighty chunks as the worker's
    rows at some contents, the read token of the whole shared table and the kept remainder of the staged rows. -/
theorem td_conv2 (d : Dev nD) (L : grid5.Coords) (q : PosShare TreeShare) (Tx : S10000x128.Idx → F .f32) (Ix : S32x10496.Idx → BitVec 32) :
    iprop(Cert.Proof.Tile2.tdT d L q q Tx Ix ∗ (idxLoc d ↦[Finset.univ \ Cert.Proof.Tile2.iRowSet L]{q} wrI d Ix))
      ⊢ (iprop((tab2 d ↦{q} wrT2 d Tx) ∗ (idxLoc d ↦{q} wrI d Ix)
          ∗ (∃ fo, out2 d ↦[(outRect (wid (cL2 L) (jL2 L))).set]{fullShare} fo)
          ∗ (sh2 d ((cL2 L).castLE (by decide)) ↦{Transfers.shareTok fullShare 16 (jL2 L)} wrS2 d ((cL2 L).castLE (by decide)) Tx)
          ∗ (sh2 d ((cL2 L).castLE (by decide)) ↦[(stageRect (jL2 L)).set]{Transfers.shareDrop fullShare 16} wrS2 d ((cL2 L).castLE (by decide)) Tx)) : sProp 𝕄) := by
  unfold Cert.Proof.Tile2.tdT
  have hI : iprop((Cert.Proof.Tile2.iLoc d ↦[Cert.Proof.Tile2.iRowSet L]{q} Ix) ∗ (idxLoc d ↦[Finset.univ \ Cert.Proof.Tile2.iRowSet L]{q} wrI d Ix))
      ⊢ (idxLoc d ↦{q} wrI d Ix : sProp 𝕄) :=
    (pointsTo_split_subset (ℓ := idxLoc d) (q := q) (f := wrI d Ix) (Finset.subset_univ (Cert.Proof.Tile2.iRowSet L))).2
  iintro ⟨⟨Ht, Hrow, Ho, Hsk, Hsd⟩, Hrest⟩
  isplitl [Ht]; · iexact Ht
  isplitl [Hrow Hrest]
  · iapply hI
    isplitl [Hrow]; · iexact Hrow
    iexact Hrest
  isplitl [Ho]
  · iapply (Cert.Proof.Tile2.oChunks_join (F := F) (U := UU) d L (wid (cL2 L) (jL2 L)) (wid_eq2 L)); iexact Ho
  isplitl [Hsk]; · iexact Hsk
  rw [← stripe2_eq]
  iexact Hsd

/-- The worker's row of the index table, read through the kernel's view of it: entry `x` of the row is the table's
    entry `(w, x)`, `w` the worker's number. -/
theorem iRow_emb2 (L : grid5.Coords) (x : S10496.Idx) (hx : (x 0).val < 10496) :
    (Cert.Proof.Tile2.iRowK L).view.emb x = ValueIdx.ix2 (wid (cL2 L) (jL2 L)) (⟨(x 0).val, hx⟩ : Fin 10496) := by
  have hk : Shape.reshapeEquiv (s := S1x10496) (s' := S10496) (squeezes_S1x10496_S10496).numel_eq x
      = (ValueIdx.ix2 (0 : Fin 1) (⟨(x 0).val, hx⟩ : Fin 10496) : S1x10496.Idx) :=
    Shape.reshapeEquiv_eq_of_rowMajor _ (by
      show ((⟨2, ![1, 10496]⟩ : Shape).rowMajor (ValueIdx.ix2 (0 : Fin 1) (⟨(x 0).val, hx⟩ : Fin 10496)) : ℕ) = ((⟨1, ![10496]⟩ : Shape).rowMajor x : ℕ)
      rw [Shape.rowMajor_val_two, Shape.rowMajor_val_one]; simp)
  show (Rect.unit (s := S32x10496) (k5_off1 L) S1x10496.size (k5_off1_inb L)).emb
    (Shape.reshapeEquiv (s := S1x10496) (s' := S10496) (squeezes_S1x10496_S10496).numel_eq x) = _
  rw [hk]
  funext a
  refine Fin.ext ?_
  have h1 := k5_off1_eq L
  match a with
  | ⟨0, _⟩ =>
    show (k5_off1 L) 0 + 1 * 0 = 2 * (L 1).val + (L 0).val
    rw [h1]; simp
  | ⟨1, _⟩ =>
    show (k5_off1 L) 1 + 1 * (x 0).val = (x 0).val
    rw [h1]; simp

/-- Every entry of the worker's row names a row of the table, in the form the kernel's body asks it. -/
theorem hin_conv2 (L : grid5.Coords) (Ix : S32x10496.Idx → BitVec 32) (hok : IdxOk (wid (cL2 L) (jL2 L)) Ix) :
    ∀ x, ((Cert.Proof.Tile2.iRowK L).view.read (Elt F) Ix x).toNat < 10000 := by
  intro x
  rw [View.read_apply, iRow_emb2 L x (x 0).isLt]
  exact hok _

end Cert.Proof.KI

end
-- ==== Proof.ScTileAsm2.lean ====
/-
  The kernel's body on one subcore, stated over the body's own vocabulary with each result chunk at the neighbour sums,
  gives the statement the launch asks over its payloads: the kit, the operands and the scoped storage are cut the way the
  body takes them, the rest rides along beside the run, and the results are put back — the eighty chunks as the worker's
  rows at the sums.
-/
import proofs.«205366_g3083786518796_cont_9to1_852_38_alg».proof.Proof.ScTileParts2
import proofs.«205366_g3083786518796_cont_9to1_852_38_alg».proof.Proof.GSum

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-- What the body hands back, each result chunk at the neighbour sums of the table over the index table. -/
def tdTv2 (d : Dev nD) (L : grid5.Coords) (qx qi : PosShare TreeShare) (Tx : S10000x128.Idx → F .f32) (Ix : S32x10496.Idx → BitVec 32) : sProp 𝕄 :=
  iprop((Cert.Proof.Tile2.xLoc d ↦{qx} Tx) ∗ (Cert.Proof.Tile2.iLoc d ↦[Cert.Proof.Tile2.iRowSet L]{qi} Ix)
    ∗ (bigSep Finset.univ fun tb : Fin k5_t1_loop.trips × Fin 2 =>
        iprop(∃ f, (Cert.Proof.Tile2.oLoc d ↦[Cert.Proof.Tile2.oChunkSet L tb.1 tb.2]{fullShare} f)
          ∗ ⌜∀ x ∈ Cert.Proof.Tile2.oChunkSet L tb.1 tb.2, f x = gsumF Tx Ix x⌝))
    ∗ (Cert.Proof.Tile2.shLoc d (Cert.Proof.Tile2.cV L) ↦{Cert.Proof.Tile2.shTok (Cert.Proof.Tile2.jV L)} Tx)
    ∗ (Cert.Proof.Tile2.shLoc d (Cert.Proof.Tile2.cV L) ↦[Cert.Proof.Tile2.stripe (Cert.Proof.Tile2.jL L)]{Cert.Proof.Tile2.shKeep} Tx))

/-- The three scratches of the task, each whole at some contents; its six semaphores at zero. -/
abbrev scr3c2 (d : Dev nD) (L : grid5.Coords) : sProp 𝕄 :=
  iprop((∃ f, (V d (Cert.Proof.Tile2.cV L) (Cert.Proof.Tile2.jV L)).loc cc5_scratch0 ↦{fullShare} f)
    ∗ (∃ f, (V d (Cert.Proof.Tile2.cV L) (Cert.Proof.Tile2.jV L)).loc cc5_scratch1 ↦{fullShare} f)
    ∗ (∃ f, (V d (Cert.Proof.Tile2.cV L) (Cert.Proof.Tile2.jV L)).loc cc5_scratch2 ↦{fullShare} f))
abbrev sem6c2 (d : Dev nD) (L : grid5.Coords) : sProp 𝕄 :=
  iprop(semVal (Cert.Proof.Tile2.cell d L cc5_scoped0.sem) 0 ∗ semVal (Cert.Proof.Tile2.cell d L cc5_scoped1.sem) 0
    ∗ semVal (Cert.Proof.Tile2.cell d L Cert.Proof.Tile2.g0sem) 0 ∗ semVal (Cert.Proof.Tile2.cell d L Cert.Proof.Tile2.g1sem) 0
    ∗ semVal (Cert.Proof.Tile2.cell d L Cert.Proof.Tile2.o0sem) 0 ∗ semVal (Cert.Proof.Tile2.cell d L Cert.Proof.Tile2.o1sem) 0)

/-- THE BODY'S STATEMENT for call 0 in the body's own vocabulary, over the launch's barrier schedule, with the valued post. -/
def TileStmt2 : Prop :=
  ∀ (d : Dev nD) (L : grid5.Coords) (qx qi : PosShare TreeShare) (fo : S10240x128.Idx → F .f32)
    (O : CellTallies nD τ sig (HIx 3)) (W : Waits sig (HIx 3)), (∀ g, O g none = 0) →
    (∀ g ι, 0 < O g ι → 8 * (2 : Fin 3).val + 6 ≤ (K (F := F)).lev g ι) →
    (∀ x, ((Cert.Proof.Tile2.iRowK L).view.read (Elt F) (Ib d) x).toNat < 10000) →
    iprop(levAts (K (F := F)).L (K (F := F)).lev ∗ kitR2 (F := F) (bRd (F := F) Tb) 2 2 d (Cert.Proof.Tile2.cV L) (Cert.Proof.Tile2.jV L)
        ∗ Cert.Proof.Tile2.goT d L qx qi (Tb 2 d) (Ib d) fo ∗ scr3c2 (F := F) d L ∗ sem6c2 (F := F) d L
        ∗ owes (V d (Cert.Proof.Tile2.cV L) (Cert.Proof.Tile2.jV L)) (O + oxV 2 d (Cert.Proof.Tile2.cV L)) W)
      ⊢ wp frame (wpE (defs₀ (F := F)) 𝒱₀ (V d (Cert.Proof.Tile2.cV L) (Cert.Proof.Tile2.jV L)) none) Set.univ
          (cc5__sc_gather_sum L (Memref.whole main_v14_0_scv) (Memref.isWhole_whole _) (Memref.whole main_v7_scv) (Memref.isWhole_whole _)
            (Memref.whole main_v15_scv) (Memref.isWhole_whole _) (Memref.whole cc5_scratch0) (Memref.isWhole_whole _)
            (Memref.whole cc5_scratch1) (Memref.isWhole_whole _) (Memref.whole cc5_scratch2) (Memref.isWhole_whole _)
            (Memref.whole cc5_scratch3) (Memref.isWhole_whole _) cc5_scratch4 cc5_scratch5 cc5_scoped0 cc5_scoped1)
          fun _ => iprop(tdTv2 (F := F) d L qx qi (Tb 2 d) (Ib d)
            ∗ (atPos EB (bcell d (Cert.Proof.Tile2.cV L) (Cert.Proof.Tile2.jV L)) (2 + 1) (∅ : Finset ℕ) 0
                ∗ reached (D := ℕ) EB (bcell d (Cert.Proof.Tile2.cV L) (Cert.Proof.Tile2.jV L)) (2 + 1))
            ∗ scr3c2 (F := F) d L ∗ sem6c2 (F := F) d L
            ∗ ∃ W', ⌜∀ p ∈ W', p ∈ W ∨ p.2 = none ∨ p.2 = some (2 : Fin 3)⌝ ∗ owes (V d (Cert.Proof.Tile2.cV L) (Cert.Proof.Tile2.jV L)) O W')

/-- The eighty valued chunks are the worker's rows at contents related to the table and the index table as the launch asks. -/
def ChunksVal2 : Prop :=
  ∀ (d : Dev nD) (L : grid5.Coords) (Tx : S10000x128.Idx → F .f32) (Ix : S32x10496.Idx → BitVec 32),
    (bigSep Finset.univ fun tb : Fin k5_t1_loop.trips × Fin 2 =>
        (iprop(∃ f, (Cert.Proof.Tile2.oLoc d ↦[Cert.Proof.Tile2.oChunkSet L tb.1 tb.2]{fullShare} f)
          ∗ ⌜∀ x ∈ Cert.Proof.Tile2.oChunkSet L tb.1 tb.2, f x = gsumF Tx Ix x⌝) : sProp 𝕄))
      ⊢ (iprop(∃ fo, (out2 d ↦[(outRect (wid (cL2 L) (jL2 L))).set]{fullShare} fo) ∗ ⌜SumRel (wid (cL2 L) (jL2 L)) Tx Ix (rdO2 d fo)⌝) : sProp 𝕄)

set_option maxRecDepth 16384 in
set_option maxHeartbeats 1000000 in
/-- THE ASSEMBLY for call 0: the launch's statement of the body from the body's own. -/
theorem bodySpec2_of_tile (ht : TileStmt2 (F := F) Tb Ib) (he : ChunksVal2 (F := F)) : BodySpec2 (F := F) Tb Ib := by
  intro d L O W hO hOlev
  have hgo : goQ Tb Ib 2 d (cL2 L) (jL2 L)
      = goPay (tab2 d) (idxLoc d) (out2 d) (sh2 d) (fun _ n => (stageRect n).set) (fun w => (outRect w).set) (wrT2 d) (wrI d) (Tb 2 d) (Ib d) 2 d (cL2 L) (jL2 L) := rfl
  have htd : tdQ Tb Ib 2 d (cL2 L) (jL2 L)
      = tdPay (tab2 d) (idxLoc d) (out2 d) (sh2 d) (fun _ n => (stageRect n).set) (fun w => (outRect w).set) (wrT2 d) (wrI d) (rdO2 d) (wrS2 d) (Tb 2 d) (Ib d) 2 d (cL2 L) (jL2 L) := rfl
  rw [hgo, htd, (K (F := F)).scopedBufs_V facts d (Cert.Proof.Tile2.cV L) (Cert.Proof.Tile2.jV L),
    SparseCore.Cfg.scopedSems0_V (Val := Elt F) d (Cert.Proof.Tile2.cV L) (Cert.Proof.Tile2.jV L),
    Cert.Proof.Tile2.ownSems0_V (F := F) (U := UU) d L, Cert.Proof.Tile2.ownBufs_V (F := F) (U := UU) d L]
  unfold goPay tdPay barCarry
  iintro ⟨#Hlv, Hkit, ⟨Ht, Hi, %hok, ⟨%fo, Ho⟩, Hs, Hat, #Hre⟩, ⟨Hb0, Hb1, Hb2, Hbrest⟩, ⟨Hs0, Hs1, Hs2, Hs3, Hs4, Hs5, Hsrest⟩, HO⟩
  ihave Hk := (kit_conv2 (F := F) Tb d L) $$ [Hkit Hat]
  · isplitl [Hkit]; · iexact Hkit
    isplitl [Hat]; · iexact Hat
    iexact Hre
  ihave Hg := (go_conv2 (F := F) d L (tileShare (cL2 L) (jL2 L)) (Tb 2 d) (Ib d) fo) $$ [Ht Hi Ho Hs]
  · isplitl [Ht]; · iexact Ht
    isplitl [Hi]; · iexact Hi
    isplitl [Ho]; · iexact Ho
    iexact Hs
  icases Hg with ⟨Hgo, Hirest⟩
  iapply (wp_wand_r frame (wpE (defs₀ (F := F)) 𝒱₀ (V d (Cert.Proof.Tile2.cV L) (Cert.Proof.Tile2.jV L)) none) Set.univ)
  isplitl [Hk Hgo Hb0 Hb1 Hb2 Hs0 Hs1 Hs2 Hs3 Hs4 Hs5 HO]
  · iapply (ht d L (tileShare (cL2 L) (jL2 L)) (tileShare (cL2 L) (jL2 L)) fo O W hO hOlev (hin_conv2 (F := F) L (Ib d) hok))
    isplitr; · iexact Hlv
    isplitl [Hk]; · iexact Hk
    isplitl [Hgo]; · iexact Hgo
    isplitl [Hb0 Hb1 Hb2]
    · isplitl [Hb0]; · iexact Hb0
      isplitl [Hb1]; · iexact Hb1
      iexact Hb2
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    iexact HO
  iintro %_ ⟨Htd, ⟨Hat1, Hre1⟩, ⟨Hb0, Hb1, Hb2⟩, ⟨Hs0, Hs1, Hs2, Hs3, Hs4, Hs5⟩, HW⟩
  unfold tdTv2
  icases Htd with ⟨Ht, Hrow, Hch, Hsk, Hsd⟩
  ihave Ho := (he d L (Tb 2 d) (Ib d)) $$ Hch
  have hI : iprop((Cert.Proof.Tile2.iLoc d ↦[Cert.Proof.Tile2.iRowSet L]{tileShare (cL2 L) (jL2 L)} Ib d)
        ∗ (idxLoc d ↦[Finset.univ \ Cert.Proof.Tile2.iRowSet L]{tileShare (cL2 L) (jL2 L)} wrI d (Ib d)))
      ⊢ (idxLoc d ↦{tileShare (cL2 L) (jL2 L)} wrI d (Ib d) : sProp 𝕄) :=
    (pointsTo_split_subset (ℓ := idxLoc d) (q := tileShare (cL2 L) (jL2 L)) (f := wrI d (Ib d)) (Finset.subset_univ (Cert.Proof.Tile2.iRowSet L))).2
  have hSd : (Cert.Proof.Tile2.shLoc d (Cert.Proof.Tile2.cV L) ↦[Cert.Proof.Tile2.stripe (Cert.Proof.Tile2.jL L)]{Cert.Proof.Tile2.shKeep} Tb 2 d : sProp 𝕄)
      ⊢ (sh2 d (Cert.Proof.Tile2.cV L) ↦[(stageRect (jL2 L)).set]{Transfers.shareDrop fullShare 16} wrS2 d (Cert.Proof.Tile2.cV L) (Tb 2 d) : sProp 𝕄) := by
    rw [stripe2_eq]
  isplitl [Ht Hrow Hirest Ho Hsk Hsd Hat1 Hre1]
  · isplitl [Ht]; · iexact Ht
    isplitl [Hrow Hirest]
    · iapply hI
      isplitl [Hrow]; · iexact Hrow
      iexact Hirest
    isplitl [Ho]; · iexact Ho
    isplitl [Hsk]; · iexact Hsk
    isplitl [Hsd]
    · iapply hSd; iexact Hsd
    isplitl [Hat1]; · iexact Hat1
    iexact Hre1
  isplitl [Hb0 Hb1 Hb2 Hbrest]
  · isplitl [Hb0]; · iexact Hb0
    isplitl [Hb1]; · iexact Hb1
    isplitl [Hb2]; · iexact Hb2
    iexact Hbrest
  isplitl [Hs0 Hs1 Hs2 Hs3 Hs4 Hs5 Hsrest]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsrest
  iexact HW

end Cert.Proof.KI

end
-- ==== Proof.BodyInv.lean ====
/-
  The invariant of the gather-sum kernel's forty trips, for one vector subcore: which gathers and copy-outs are in flight
  when `t` trips are done, and what of the scratches, of the shared table's read shares and of the result chunks is held.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefs
import proofs.«205366_g3083786518796_cont_9to1_852_38_alg».proof.Proof.BodyLemmas

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

section Body
variable (d : Dev nD) (L : grid0.Coords)

/-! ## The forty trips' invariant -/

theorem k0_trips_eq : k0_t1_loop.trips = 40 := by decide

/-- Trip `n` as an index of the loop (clamped). -/
def tFin (n : ℕ) : Fin k0_t1_loop.trips := ⟨min n 39, by rw [k0_trips_eq]; omega⟩
theorem tFin_val (k : Fin k0_t1_loop.trips) : tFin k.val = k := Fin.ext (by have h := lt_of_lt_of_eq k.isLt k0_trips_eq; show min k.val 39 = k.val; omega)

/-- The index windows of the two gathers started before the loop, and of those a trip starts. -/
abbrev ixLit0 : Memref sig .scVector .vmem S128 .i32 := (ixV).slice (Rect.unit (s := S10496) ![0] S128.size inb_S10496_S128_0) (fun _ => rfl)
abbrev ixLit1 : Memref sig .scVector .vmem S128 .i32 := (ixV).slice (Rect.unit (s := S10496) ![128] S128.size inb_S10496_S128_128) (fun _ => rfl)
abbrev ixLoop0 (t : Fin k0_t1_loop.trips) : Memref sig .scVector .vmem S128 .i32 := (ixV).slice (Rect.unit (s := S10496) (k0_off21 t 0#32) S128.size (k0_off21_inb t 0)) (fun _ => rfl)
abbrev ixLoop1 (t : Fin k0_t1_loop.trips) : Memref sig .scVector .vmem S128 .i32 := (ixV).slice (Rect.unit (s := S10496) (k0_off21 t 1#32) S128.size (k0_off21_inb t 1)) (fun _ => rfl)

abbrev ixLoopSet0 (t : Fin k0_t1_loop.trips) : Finset S10496.Idx := (ixLoop0 t).view.set
abbrev ixLoopSet1 (t : Fin k0_t1_loop.trips) : Finset S10496.Idx := (ixLoop1 t).view.set
abbrev ixLitSet0 : Finset S10496.Idx := (ixLit0).view.set
abbrev ixLitSet1 : Finset S10496.Idx := (ixLit1).view.set

section Inv

variable (Tx : S10000x128.Idx → Elt F .f32) (Ix : S32x10496.Idx → Elt F .i32)

/-- A gather in flight into slot 0 (resp. 1) of the row scratch, over the index window `w`, and the rest of that window's
    share of the index scratch. -/
def gFl0 (ws : Finset S10496.Idx) (fr : Buf (Elt F) ((V d (cV L) (jV L)).loc cc0_scratch1)) : sProp 𝕄 :=
  iprop(Transfers.Flight (countersEmb : UEmb Counters 𝕄) (V d (cV L) (jV L)) (SemLoc.dma g0sem) (default : HIx 3) 524288
      iprop((((rwV).view.loc (V d (cV L) (jV L)) ↦[(rwK0).view.set]{fullShare} fr)
          ∗ ((ixV).view.loc (V d (cV L) (jV L)) ↦[ws]{fullShare.left} (iRowK L).view.read (Elt F) Ix))
        ∗ ((shV).view.loc (V d (cV L) (jV L)) ↦[(shAllK).view.set]{(shTok (jV L)).left} Tx))
    ∗ ((ixV).view.loc (V d (cV L) (jV L)) ↦[Finset.univ \ ws]{fullShare.left} (iRowK L).view.read (Elt F) Ix))
def gFl1 (ws : Finset S10496.Idx) (fr : Buf (Elt F) ((V d (cV L) (jV L)).loc cc0_scratch1)) : sProp 𝕄 :=
  iprop(Transfers.Flight (countersEmb : UEmb Counters 𝕄) (V d (cV L) (jV L)) (SemLoc.dma g1sem) (default : HIx 3) 524288
      iprop((((rwV).view.loc (V d (cV L) (jV L)) ↦[(rwK1).view.set]{fullShare} fr)
          ∗ ((ixV).view.loc (V d (cV L) (jV L)) ↦[ws]{fullShare.right} (iRowK L).view.read (Elt F) Ix))
        ∗ ((shV).view.loc (V d (cV L) (jV L)) ↦[(shAllK).view.set]{(shTok (jV L)).right} Tx))
    ∗ ((ixV).view.loc (V d (cV L) (jV L)) ↦[Finset.univ \ ws]{fullShare.right} (iRowK L).view.read (Elt F) Ix))

/-- A copy-out in flight from slot 0 (resp. 1) of the result scratch to the chunk of trip `t`. -/
def oFl0 (t : Fin k0_t1_loop.trips) (fc : S10240x128.Idx → Elt F .f32) (fob : Buf (Elt F) ((V d (cV L) (jV L)).loc cc0_scratch2)) : sProp 𝕄 :=
  Transfers.Flight (countersEmb : UEmb Counters 𝕄) (V d (cV L) (jV L)) (SemLoc.dma o0sem) (default : HIx 3) 16384
    iprop(((oChunkK L t 0).view.loc (V d (cV L) (jV L)) ↦[(oChunkK L t 0).view.set]{fullShare} fc)
      ∗ ((obV).view.loc (V d (cV L) (jV L)) ↦[(obK0).view.set]{fullShare} fob))
def oFl1 (t : Fin k0_t1_loop.trips) (fc : S10240x128.Idx → Elt F .f32) (fob : Buf (Elt F) ((V d (cV L) (jV L)).loc cc0_scratch2)) : sProp 𝕄 :=
  Transfers.Flight (countersEmb : UEmb Counters 𝕄) (V d (cV L) (jV L)) (SemLoc.dma o1sem) (default : HIx 3) 16384
    iprop(((oChunkK L t 1).view.loc (V d (cV L) (jV L)) ↦[(oChunkK L t 1).view.set]{fullShare} fc)
      ∗ ((obV).view.loc (V d (cV L) (jV L)) ↦[(obK1).view.set]{fullShare} fob))

/-- The two result chunks of trip `t'` when `t` trips are done: in flight (trip `t - 1`'s), else held at some contents. -/
def rowSt (t : ℕ) (t' : Fin k0_t1_loop.trips) : sProp 𝕄 :=
  if t'.val + 1 = t then iprop(emp)
  else iprop((∃ f, (oChunkK L t' 0).view.loc (V d (cV L) (jV L)) ↦[(oChunkK L t' 0).view.set]{fullShare} f)
    ∗ (∃ f, (oChunkK L t' 1).view.loc (V d (cV L) (jV L)) ↦[(oChunkK L t' 1).view.set]{fullShare} f))

/-- When `t` trips are done: the gathers of chunks `2 t` and `2 t + 1` are in flight; the copy-outs of trip `t - 1` are
    (none before the first trip); the scratches less the slots in flight are held; the shared table's two read shares less
    nothing; every other result chunk is held. -/
def tripInv (O : CellTallies nD τ sig (HIx 3)) (W : Waits sig (HIx 3)) (t : ℕ) (_ : PUnit) : sProp 𝕄 :=
  iprop(Transfers.MayWaits (V d (cV L) (jV L)) (default : HIx 3) O
    ∗ (if t = 0 then iprop(∃ fr0 fr1 : Buf (Elt F) ((V d (cV L) (jV L)).loc cc0_scratch1), gFl0 d L Tx Ix ixLitSet0 fr0 ∗ gFl1 d L Tx Ix ixLitSet1 fr1)
        else iprop(∃ fr0 fr1 : Buf (Elt F) ((V d (cV L) (jV L)).loc cc0_scratch1),
          gFl0 d L Tx Ix (ixLoopSet0 (tFin (t - 1))) fr0 ∗ gFl1 d L Tx Ix (ixLoopSet1 (tFin (t - 1))) fr1))
    ∗ (∃ frr : Buf (Elt F) ((V d (cV L) (jV L)).loc cc0_scratch1),
        (rwV).view.loc (V d (cV L) (jV L)) ↦[(Finset.univ \ (rwK0).view.set) \ (rwK1).view.set]{fullShare} frr)
    ∗ ((shV).view.loc (V d (cV L) (jV L)) ↦[Finset.univ \ (shAllK).view.set]{(shTok (jV L)).left} Tx)
    ∗ ((shV).view.loc (V d (cV L) (jV L)) ↦[Finset.univ \ (shAllK).view.set]{(shTok (jV L)).right} Tx)
    ∗ (if t = 0 then iprop(∃ fob : Buf (Elt F) ((V d (cV L) (jV L)).loc cc0_scratch2), ((obV).view.loc (V d (cV L) (jV L)) ↦{fullShare} fob)
            ∗ semVal (V d (cV L) (jV L), SemLoc.dma o0sem) 0 ∗ semVal (V d (cV L) (jV L), SemLoc.dma o1sem) 0)
        else iprop(∃ (fob : Buf (Elt F) ((V d (cV L) (jV L)).loc cc0_scratch2)) (fc0 fc1 : S10240x128.Idx → Elt F .f32) (fob0 fob1 : Buf (Elt F) ((V d (cV L) (jV L)).loc cc0_scratch2)),
            oFl0 d L (tFin (t - 1)) fc0 fob0 ∗ oFl1 d L (tFin (t - 1)) fc1 fob1
            ∗ ((obV).view.loc (V d (cV L) (jV L)) ↦[(Finset.univ \ (obK0).view.set) \ (obK1).view.set]{fullShare} fob)))
    ∗ (bigSep Finset.univ fun t' : Fin k0_t1_loop.trips => rowSt d L t t')
    ∗ ∃ W', ⌜∀ p ∈ W', p ∈ W ∨ p.2 = none⌝ ∗ owes (V d (cV L) (jV L)) O W')

end Inv

end Body
end Cert.Proof.Tile
end
-- ==== Proof.BodyJoin.lean ====
/-
  Joining pieces of one buffer held at contents of their own; the slots of the row and result scratches are apart; the
  result chunks' rows as the trips' invariant states them, opened and closed; what the stage copy and the index copy leave.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefs
import proofs.«205366_g3083786518796_cont_9to1_852_38_alg».proof.Proof.BodyLemmas
import proofs.«205366_g3083786518796_cont_9to1_852_38_alg».proof.Proof.BodyInv

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

section Body
variable (d : Dev nD) (L : grid0.Coords)

/-! ## Two pieces of one buffer, at contents of their own, are their union at some contents -/

theorem pts_join {ℓ : Loc nD τ sig} {q : PosShare TreeShare} {A B : Finset (Idx ℓ)} (h : Disjoint A B) (f g : Buf (Elt F) ℓ) :
    iprop((ℓ ↦[A]{q} f) ∗ (ℓ ↦[B]{q} g)) ⊢ (iprop(∃ h, ℓ ↦[A ∪ B]{q} h) : sProp 𝕄) := by
  classical
  have e1 : (ℓ ↦[A]{q} f : sProp 𝕄) = ℓ ↦[A]{q} (fun i => if i ∈ A then f i else g i) := pointsTo_congr fun i hi => by simp [hi]
  have e2 : (ℓ ↦[B]{q} g : sProp 𝕄) = ℓ ↦[B]{q} (fun i => if i ∈ A then f i else g i) := pointsTo_congr fun i hi => by
    have : i ∉ A := fun ha => (Finset.disjoint_left.mp h ha hi)
    simp [this]
  iintro ⟨HA, HB⟩
  iexists (fun i => if i ∈ A then f i else g i)
  ihave HA' := (Entails.of_eq e1) $$ HA
  ihave HB' := (Entails.of_eq e2) $$ HB
  iapply (pointsTo_split_subset (S := A ∪ B) (I := A) Finset.subset_union_left).2
  isplitl [HA']; · iexact HA'
  rw [Finset.union_sdiff_cancel_left h]; iexact HB'

/-- The two slots of the row scratch, and of the result scratch, are apart. -/
theorem set_rwK0 : (rwK0).view.set = (Rect.unit (s := S2x128x128) ![0, 0, 0] S1x128x128.size inb_S2x128x128_S1x128x128_0_0_0).set := by
  show (((rwV).view.slice (Rect.unit (s := S2x128x128) ![0, 0, 0] S1x128x128.size inb_S2x128x128_S1x128x128_0_0_0)).reshape S128x128 squeezes_S1x128x128_S128x128.numel_eq).set = _
  rw [View.set_reshape, View.set_slice_whole]
theorem set_rwK1 : (rwK1).view.set = (Rect.unit (s := S2x128x128) ![1, 0, 0] S1x128x128.size inb_S2x128x128_S1x128x128_1_0_0).set := by
  show (((rwV).view.slice (Rect.unit (s := S2x128x128) ![1, 0, 0] S1x128x128.size inb_S2x128x128_S1x128x128_1_0_0)).reshape S128x128 squeezes_S1x128x128_S128x128.numel_eq).set = _
  rw [View.set_reshape, View.set_slice_whole]
theorem set_obK0 : (obK0).view.set = (Rect.unit (s := S2x4x128) ![0, 0, 0] S1x4x128.size inb_S2x4x128_S1x4x128_0_0_0).set := by
  show (((obV).view.slice (Rect.unit (s := S2x4x128) ![0, 0, 0] S1x4x128.size inb_S2x4x128_S1x4x128_0_0_0)).reshape S4x128 squeezes_S1x4x128_S4x128.numel_eq).set = _
  rw [View.set_reshape, View.set_slice_whole]
theorem set_obK1 : (obK1).view.set = (Rect.unit (s := S2x4x128) ![1, 0, 0] S1x4x128.size inb_S2x4x128_S1x4x128_1_0_0).set := by
  show (((obV).view.slice (Rect.unit (s := S2x4x128) ![1, 0, 0] S1x4x128.size inb_S2x4x128_S1x4x128_1_0_0)).reshape S4x128 squeezes_S1x4x128_S4x128.numel_eq).set = _
  rw [View.set_reshape, View.set_slice_whole]
theorem rw_slots_disjoint : Disjoint (rwK0).view.set (rwK1).view.set := by
  rw [set_rwK0, set_rwK1]; exact Rect.unit_disjoint 0 (Or.inl (by decide))
theorem ob_slots_disjoint : Disjoint (obK0).view.set (obK1).view.set := by
  rw [set_obK0, set_obK1]; exact Rect.unit_disjoint 0 (Or.inl (by decide))

theorem sdiff_join_left {α : Type} [DecidableEq α] [Fintype α] {A B : Finset α} (h : Disjoint A B) :
    A ∪ ((Finset.univ \ A) \ B) = Finset.univ \ B := by
  ext i
  have hd : i ∈ A → i ∉ B := fun ha => Finset.disjoint_left.mp h ha
  simp only [Finset.mem_union, Finset.mem_sdiff, Finset.mem_univ, true_and]
  tauto
theorem sdiff_join_right {α : Type} [DecidableEq α] [Fintype α] {A B : Finset α} (h : Disjoint A B) :
    B ∪ ((Finset.univ \ B) \ A) = Finset.univ \ A := sdiff_join_left h.symm
theorem sdiff_join_all {α : Type} [DecidableEq α] [Fintype α] {A : Finset α} : A ∪ (Finset.univ \ A) = Finset.univ := by
  ext i; simp only [Finset.mem_union, Finset.mem_sdiff, Finset.mem_univ, true_and]; tauto

theorem sdiff_join_disj {α : Type} [DecidableEq α] [Fintype α] {A B : Finset α} (h : Disjoint A B) : Disjoint A ((Finset.univ \ A) \ B) :=
  Finset.disjoint_left.mpr fun i hi hm => (Finset.mem_sdiff.mp (Finset.mem_sdiff.mp hm).1).2 hi

theorem row_intro (t' : Fin k0_t1_loop.trips) (fo : S10240x128.Idx → Elt F .f32) :
    iprop((oLoc d ↦[oChunkSet L t' 0]{fullShare} fo) ∗ (oLoc d ↦[oChunkSet L t' 1]{fullShare} fo))
    ⊢ (iprop((∃ f, (oChunkK L t' 0).view.loc (V d (cV L) (jV L)) ↦[(oChunkK L t' 0).view.set]{fullShare} f)
      ∗ (∃ f, (oChunkK L t' 1).view.loc (V d (cV L) (jV L)) ↦[(oChunkK L t' 1).view.set]{fullShare} f)) : sProp 𝕄) := by
  iintro ⟨H0, H1⟩
  isplitl [H0]
  · iexists fo; iapply (Entails.of_eq (pts_oChunk (F := F) (U := U) d L t' 0 fo).symm); iexact H0
  · iexists fo; iapply (Entails.of_eq (pts_oChunk (F := F) (U := U) d L t' 1 fo).symm); iexact H1

theorem row_elim (t' : Fin k0_t1_loop.trips) :
    (iprop((∃ f, (oChunkK L t' 0).view.loc (V d (cV L) (jV L)) ↦[(oChunkK L t' 0).view.set]{fullShare} f)
      ∗ (∃ f, (oChunkK L t' 1).view.loc (V d (cV L) (jV L)) ↦[(oChunkK L t' 1).view.set]{fullShare} f)) : sProp 𝕄)
    ⊢ iprop((∃ f, oLoc d ↦[oChunkSet L t' 0]{fullShare} f) ∗ (∃ f, oLoc d ↦[oChunkSet L t' 1]{fullShare} f)) := by
  iintro ⟨⟨%f0, H0⟩, ⟨%f1, H1⟩⟩
  isplitl [H0]
  · iexists f0; iapply (Entails.of_eq (pts_oChunk (F := F) (U := U) d L t' 0 f0)); iexact H0
  · iexists f1; iapply (Entails.of_eq (pts_oChunk (F := F) (U := U) d L t' 1 f1)); iexact H1

/-- The result chunks, all held, as the invariant before the first trip states them. -/
theorem rows_of_chunks (fo : S10240x128.Idx → Elt F .f32) :
    (bigSep Finset.univ fun tb : Fin k0_t1_loop.trips × Fin 2 => (oLoc d ↦[oChunkSet L tb.1 tb.2]{fullShare} fo : sProp 𝕄))
    ⊢ bigSep Finset.univ fun t' : Fin k0_t1_loop.trips => rowSt (U := U) d L 0 t' := by
  rw [bigSep_univ_prod]
  refine bigSep_mono fun t' _ => ?_
  rw [bigSep_univ_two]
  unfold rowSt
  rw [if_neg (Nat.succ_ne_zero _)]
  exact row_intro (F := F) (U := U) d L t' fo

/-- Every result chunk held again, at some contents. -/
theorem chunks_of_rows (t : ℕ) (ht : ∀ t' : Fin k0_t1_loop.trips, t'.val + 1 ≠ t) :
    (bigSep Finset.univ fun t' : Fin k0_t1_loop.trips => rowSt (U := U) (F := F) d L t t')
    ⊢ bigSep Finset.univ fun tb : Fin k0_t1_loop.trips × Fin 2 => (iprop(∃ f, oLoc d ↦[oChunkSet L tb.1 tb.2]{fullShare} f) : sProp 𝕄) := by
  rw [bigSep_univ_prod]
  refine bigSep_mono fun t' _ => ?_
  rw [bigSep_univ_two]
  unfold rowSt
  rw [if_neg (ht t')]
  exact row_elim (F := F) (U := U) d L t'

/-- After the stage copy the stripe of the shared table holds the table's rows. -/
theorem stripe_fix (Tx fsh : S10000x128.Idx → Elt F .f32) :
    ((shStripeK L).view.loc (V d (cV L) (jV L)) ↦[(shStripeK L).view.set]{fullShare}
        (shStripeK L).view.writes (Elt F) fsh [⟨Rect.whole { rank := 2, size := (k0_off2 L).2 }, ReadAs.same.apply ((xStripeK L).view.read (Elt F) Tx)⟩] : sProp 𝕄)
    ⊢ shLoc d (cV L) ↦[stripe (jL L)]{fullShare} Tx := by
  rw [pointsTo_congr (stripe_copied (F := F) L Tx fsh)]
  exact Entails.of_eq (pts_shStripe (F := F) (U := U) d L _ _)

/-- After the index copy the index scratch holds row `wid`. -/
theorem idx_fix (Ix : S32x10496.Idx → Elt F .i32) (f0 : S10496.Idx → Elt F .i32) :
    ((ixV).view.loc (V d (cV L) (jV L)) ↦{fullShare} View.write (Elt F) (ixV).view f0 (ReadAs.same.apply ((iRowK L).view.read (Elt F) Ix)) Finset.univ : sProp 𝕄)
    ⊢ (ixV).view.loc (V d (cV L) (jV L)) ↦{fullShare} (iRowK L).view.read (Elt F) Ix := by
  rw [pointsTo_congr (idx_copied (F := F) L Ix f0)]

theorem stripe_numel_pos : ∀ L : grid0.Coords, 0 < (⟨2, (k0_off2 L).2⟩ : Shape).numel := by decide +kernel

theorem tFin_39 : (tFin 39).val + 1 = 40 := rfl

/-- All result chunks held again once the last trip's two copy-outs have landed. -/
theorem rows_close (fc0 fc1 : S10240x128.Idx → Elt F .f32) :
    iprop((bigSep Finset.univ fun t' : Fin k0_t1_loop.trips => rowSt (U := U) (F := F) d L 40 t')
      ∗ ((oChunkK L (tFin 39) 0).view.loc (V d (cV L) (jV L)) ↦[(oChunkK L (tFin 39) 0).view.set]{fullShare} fc0)
      ∗ ((oChunkK L (tFin 39) 1).view.loc (V d (cV L) (jV L)) ↦[(oChunkK L (tFin 39) 1).view.set]{fullShare} fc1))
    ⊢ bigSep Finset.univ fun tb : Fin k0_t1_loop.trips × Fin 2 => (iprop(∃ f, oLoc d ↦[oChunkSet L tb.1 tb.2]{fullShare} f) : sProp 𝕄) := by
  rw [bigSep_univ_prod]
  have hrest : Idealize.SL.BI.Entails
      (bigSep (Finset.univ.erase (tFin 39)) fun t' : Fin k0_t1_loop.trips => rowSt (U := U) (F := F) d L 40 t')
      (bigSep (Finset.univ.erase (tFin 39)) fun t' : Fin k0_t1_loop.trips => bigSep Finset.univ fun b : Fin 2 => (iprop(∃ f, oLoc d ↦[oChunkSet L (t', b).1 (t', b).2]{fullShare} f) : sProp 𝕄)) :=
    bigSep_mono fun t' ht' => by
      have hne : t'.val + 1 ≠ 40 := fun h => (Finset.mem_erase.mp ht').1 (Fin.ext (by show t'.val = min 39 39; omega))
      rw [bigSep_univ_two]
      unfold rowSt
      rw [if_neg hne]
      exact row_elim (F := F) (U := U) d L t'
  iintro ⟨Hrows, H0, H1⟩
  ihave Hr := (Entails.of_eq (SparseCore.bigSep_erase' (Φ := fun t' : Fin k0_t1_loop.trips => rowSt (U := U) (F := F) d L 40 t') (Finset.mem_univ (tFin 39)))) $$ Hrows
  icases Hr with ⟨-, Hrest⟩
  iapply (Entails.of_eq (SparseCore.bigSep_erase' (Φ := fun t' : Fin k0_t1_loop.trips => bigSep Finset.univ fun b : Fin 2 => (iprop(∃ f, oLoc d ↦[oChunkSet L (t', b).1 (t', b).2]{fullShare} f) : sProp 𝕄)) (Finset.mem_univ (tFin 39))).symm)
  isplitl [H0 H1]
  · rw [bigSep_univ_two]
    isplitl [H0]
    · iexists fc0; iapply (Entails.of_eq (pts_oChunk (F := F) (U := U) d L (tFin 39) 0 fc0)); iexact H0
    · iexists fc1; iapply (Entails.of_eq (pts_oChunk (F := F) (U := U) d L (tFin 39) 1 fc1)); iexact H1
  · iapply (SparseCore.ent hrest) $$ Hrest

end Body
end Cert.Proof.Tile
end
-- ==== Proof.BodyInvV.lean ====
/-
  The gather-sum kernel's trips with what the buffers hold: the row scratch's slots hold the table rows their index chunks
  name, the result scratch's summed rows hold the tree sums, the chunks copied out hold their rows of the neighbour-sum array.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefs
import proofs.«205366_g3083786518796_cont_9to1_852_38_alg».proof.Proof.BodyLemmas
import proofs.«205366_g3083786518796_cont_9to1_852_38_alg».proof.Proof.BodyInv
import proofs.«205366_g3083786518796_cont_9to1_852_38_alg».proof.Proof.BodyJoin
import proofs.«205366_g3083786518796_cont_9to1_852_38_alg».proof.Proof.GSum
import Idealize.ShloMosaic.Lib.ValueIdx

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

section Body
variable (d : Dev nD) (L : grid0.Coords)

/-! ## The forty trips' invariant, with what the buffers hold -/

open Idealize.ShloMosaic.ValueIdx (ix1 ix2 ix3)

section InvV

variable (Tx : S10000x128.Idx → Elt F .f32) (Ix : S32x10496.Idx → Elt F .i32)

/-- Entry `n` of the worker's row of the index table, as a row number of the table (reduced into range). -/
def idxAt (n : ℕ) : Fin 10000 :=
  ⟨((iRowK L).view.read (Elt F) Ix (ix1 ⟨n % 10496, Nat.mod_lt _ (by decide)⟩)).toNat % 10000, Nat.mod_lt _ (by decide)⟩

/-- Slot `b` of the row scratch holds the 128 table rows named by index chunk `n`. -/
def RowsOK (b : Fin 2) (n : ℕ) (fr : S2x128x128.Idx → Elt F .f32) : Prop :=
  ∀ (r j : Fin 128), fr (ix3 b r j) = Tx (ix2 (idxAt L Ix (128 * n + r.val)) j)

/-- The tree sum of the 32 table rows named by entries `32 m …` of the worker's index row, at lane `j`: row `m` of the
    worker's 320 result rows. -/
def rowSum [FloatOps F] (m : ℕ) (j : Fin 128) : Elt F .f32 :=
  Cert.Proof.KI.tree32 (F := F) fun kk : Fin 32 => Tx (ix2 (idxAt L Ix (32 * m + kk.val)) j)

/-- Rows `< r` of slot `b` of the result scratch hold the sums of result rows `4 n …`. -/
def SumsOK [FloatOps F] (b : Fin 2) (n : ℕ) (r : ℕ) (fob : S2x4x128.Idx → Elt F .f32) : Prop :=
  ∀ (r' : Fin 4) (j : Fin 128), r'.val < r → fob (ix3 b r' j) = rowSum L Tx Ix (4 * n + r'.val) j

/-- A result chunk holds its rows of the neighbour-sum array. -/
def ChunkOK [FloatOps F] (t : Fin k0_t1_loop.trips) (b : Fin 2) (f : S10240x128.Idx → Elt F .f32) : Prop :=
  ∀ x ∈ oChunkSet L t b, f x = Cert.Proof.KI.gsumF (F := F) Tx Ix x

/-- The two result chunks of trip `t'` when `t` trips are done: in flight (trip `t - 1`'s); copied out and holding their rows of
    the neighbour-sum array (earlier trips'); else held at some contents. -/
def rowStV [FloatOps F] (t : ℕ) (t' : Fin k0_t1_loop.trips) : sProp 𝕄 :=
  if t'.val + 1 = t then iprop(emp)
  else if t'.val < t then
    iprop((∃ f, ⌜ChunkOK L Tx Ix t' 0 f⌝ ∗ ((oChunkK L t' 0).view.loc (V d (cV L) (jV L)) ↦[(oChunkK L t' 0).view.set]{fullShare} f))
      ∗ (∃ f, ⌜ChunkOK L Tx Ix t' 1 f⌝ ∗ ((oChunkK L t' 1).view.loc (V d (cV L) (jV L)) ↦[(oChunkK L t' 1).view.set]{fullShare} f)))
  else iprop((∃ f, (oChunkK L t' 0).view.loc (V d (cV L) (jV L)) ↦[(oChunkK L t' 0).view.set]{fullShare} f)
    ∗ (∃ f, (oChunkK L t' 1).view.loc (V d (cV L) (jV L)) ↦[(oChunkK L t' 1).view.set]{fullShare} f))

/-- The trips' invariant with what the buffers hold: the row scratch's slot in flight will hold the table rows its index
    chunk names; a chunk in flight will hold its rows of the neighbour-sum array; the chunks copied out hold theirs. -/
def tripInvV [FloatOps F] (O : CellTallies nD τ sig (HIx 3)) (W : Waits sig (HIx 3)) (t : ℕ) (_ : PUnit) : sProp 𝕄 :=
  iprop(Transfers.MayWaits (V d (cV L) (jV L)) (default : HIx 3) O
    ∗ (if t = 0 then iprop(∃ fr0 fr1 : Buf (Elt F) ((V d (cV L) (jV L)).loc cc0_scratch1),
          ⌜RowsOK L Tx Ix 0 (2 * t) fr0 ∧ RowsOK L Tx Ix 1 (2 * t + 1) fr1⌝ ∗ gFl0 d L Tx Ix ixLitSet0 fr0 ∗ gFl1 d L Tx Ix ixLitSet1 fr1)
        else iprop(∃ fr0 fr1 : Buf (Elt F) ((V d (cV L) (jV L)).loc cc0_scratch1),
          ⌜RowsOK L Tx Ix 0 (2 * t) fr0 ∧ RowsOK L Tx Ix 1 (2 * t + 1) fr1⌝
          ∗ gFl0 d L Tx Ix (ixLoopSet0 (tFin (t - 1))) fr0 ∗ gFl1 d L Tx Ix (ixLoopSet1 (tFin (t - 1))) fr1))
    ∗ (∃ frr : Buf (Elt F) ((V d (cV L) (jV L)).loc cc0_scratch1),
        (rwV).view.loc (V d (cV L) (jV L)) ↦[(Finset.univ \ (rwK0).view.set) \ (rwK1).view.set]{fullShare} frr)
    ∗ ((shV).view.loc (V d (cV L) (jV L)) ↦[Finset.univ \ (shAllK).view.set]{(shTok (jV L)).left} Tx)
    ∗ ((shV).view.loc (V d (cV L) (jV L)) ↦[Finset.univ \ (shAllK).view.set]{(shTok (jV L)).right} Tx)
    ∗ (if t = 0 then iprop(∃ fob : Buf (Elt F) ((V d (cV L) (jV L)).loc cc0_scratch2), ((obV).view.loc (V d (cV L) (jV L)) ↦{fullShare} fob)
            ∗ semVal (V d (cV L) (jV L), SemLoc.dma o0sem) 0 ∗ semVal (V d (cV L) (jV L), SemLoc.dma o1sem) 0)
        else iprop(∃ (fob : Buf (Elt F) ((V d (cV L) (jV L)).loc cc0_scratch2)) (fc0 fc1 : S10240x128.Idx → Elt F .f32) (fob0 fob1 : Buf (Elt F) ((V d (cV L) (jV L)).loc cc0_scratch2)),
            ⌜ChunkOK L Tx Ix (tFin (t - 1)) 0 fc0 ∧ ChunkOK L Tx Ix (tFin (t - 1)) 1 fc1⌝
            ∗ oFl0 d L (tFin (t - 1)) fc0 fob0 ∗ oFl1 d L (tFin (t - 1)) fc1 fob1
            ∗ ((obV).view.loc (V d (cV L) (jV L)) ↦[(Finset.univ \ (obK0).view.set) \ (obK1).view.set]{fullShare} fob)))
    ∗ (bigSep Finset.univ fun t' : Fin k0_t1_loop.trips => rowStV d L Tx Ix t t')
    ∗ ∃ W', ⌜∀ p ∈ W', p ∈ W ∨ p.2 = none⌝ ∗ owes (V d (cV L) (jV L)) O W')

/-- The inner loops' invariants: the slot's rows already summed hold their sums. `S` is what of the result scratch is held. -/
def innerInv0 [FloatOps F] (S : Finset S2x4x128.Idx) (n : ℕ) (h : Buf (Elt F) ((V d (cV L) (jV L)).loc cc0_scratch1)) (r : ℕ) (_ : PUnit) : sProp 𝕄 :=
  iprop(∃ fob' : Buf (Elt F) ((V d (cV L) (jV L)).loc cc0_scratch2), ⌜SumsOK L Tx Ix 0 n r fob'⌝
    ∗ ((rwV).view.loc (V d (cV L) (jV L)) ↦[Finset.univ \ (rwK1).view.set]{fullShare} h)
    ∗ ((obV).view.loc (V d (cV L) (jV L)) ↦[S]{fullShare} fob'))
def innerInv1 [FloatOps F] (n : ℕ) (h : Buf (Elt F) ((V d (cV L) (jV L)).loc cc0_scratch1)) (r : ℕ) (_ : PUnit) : sProp 𝕄 :=
  iprop(∃ fob' : Buf (Elt F) ((V d (cV L) (jV L)).loc cc0_scratch2), ⌜SumsOK L Tx Ix 1 n r fob'⌝
    ∗ ((rwV).view.loc (V d (cV L) (jV L)) ↦[Finset.univ \ (rwK0).view.set]{fullShare} h)
    ∗ ((obV).view.loc (V d (cV L) (jV L)) ↦[Finset.univ \ (obK0).view.set]{fullShare} fob'))

end InvV

end Body
end Cert.Proof.Tile
end
-- ==== Proof.BodyTrip.lean ====
/-
  One trip of the gather-sum kernel's forty on a vector subcore, from the trips' invariant to itself one trip on: for each
  of the two slots, its gather waited for (and, past the first trip, its previous copy-out), the slot's four rows summed
  (a loop of four, each the tree sum of 32 rows, 16 lanes at a time), the sums copied out to the trip's chunk, the slot's
  next gather started.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefs
import proofs.«205366_g3083786518796_cont_9to1_852_38_alg».proof.Proof.BodyLemmas
import proofs.«205366_g3083786518796_cont_9to1_852_38_alg».proof.Proof.BodyInv
import proofs.«205366_g3083786518796_cont_9to1_852_38_alg».proof.Proof.BodyJoin

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

section Body
variable (d : Dev nD) (L : grid0.Coords)

theorem rowSt_ne {t : ℕ} {t' : Fin k0_t1_loop.trips} (h : t'.val + 1 ≠ t) :
    (rowSt (U := U) (F := F) d L t t' : sProp 𝕄)
      = iprop((∃ f, (oChunkK L t' 0).view.loc (V d (cV L) (jV L)) ↦[(oChunkK L t' 0).view.set]{fullShare} f)
        ∗ (∃ f, (oChunkK L t' 1).view.loc (V d (cV L) (jV L)) ↦[(oChunkK L t' 1).view.set]{fullShare} f)) := by
  unfold rowSt; rw [if_neg h]
theorem rowSt_eq {t : ℕ} {t' : Fin k0_t1_loop.trips} (h : t'.val + 1 = t) : (rowSt (U := U) (F := F) d L t t' : sProp 𝕄) = iprop(emp) := by
  unfold rowSt; rw [if_pos h]

theorem cond1_zero {k : Fin k0_t1_loop.trips} (hk : k.val = 0) : ¬ k0_cond1 k = 1#1 := by
  have : k = ⟨0, by decide⟩ := Fin.ext hk
  subst this; decide
theorem cond2_zero {k : Fin k0_t1_loop.trips} (hk : k.val = 0) : ¬ k0_cond2 k = 1#1 := by
  have : k = ⟨0, by decide⟩ := Fin.ext hk
  subst this; decide
theorem cond1_pos : ∀ k : Fin k0_t1_loop.trips, k.val ≠ 0 → k0_cond1 k = 1#1 := by decide
theorem cond2_pos : ∀ k : Fin k0_t1_loop.trips, k.val ≠ 0 → k0_cond2 k = 1#1 := by decide

/-- The chunk rows after the first trip: its own two chunks are in flight, the others as before. -/
theorem rows_step0 (k : Fin k0_t1_loop.trips) (hk : k.val = 0) :
    (bigSep (Finset.univ.erase k) fun t' : Fin k0_t1_loop.trips => rowSt (U := U) (F := F) d L k.val t')
    ⊢ bigSep Finset.univ fun t' : Fin k0_t1_loop.trips => rowSt (U := U) (F := F) d L (k.val + 1) t' := by
  have hrest : Idealize.SL.BI.Entails
      (bigSep (Finset.univ.erase k) fun t' : Fin k0_t1_loop.trips => rowSt (U := U) (F := F) d L k.val t')
      (bigSep (Finset.univ.erase k) fun t' : Fin k0_t1_loop.trips => rowSt (U := U) (F := F) d L (k.val + 1) t') :=
    bigSep_mono fun t' ht' => by
      have hne : t' ≠ k := (Finset.mem_erase.mp ht').1
      have h1 : t'.val + 1 ≠ k.val := by omega
      have h2 : t'.val + 1 ≠ k.val + 1 := fun h => hne (Fin.ext (by omega))
      rw [rowSt_ne (F := F) (U := U) d L h1, rowSt_ne (F := F) (U := U) d L h2]
      exact BI.Entails.refl _
  iintro H
  iapply (Entails.of_eq (SparseCore.bigSep_erase' (Φ := fun t' : Fin k0_t1_loop.trips => rowSt (U := U) (F := F) d L (k.val + 1) t') (Finset.mem_univ k)).symm)
  isplitr
  · rw [rowSt_eq (F := F) (U := U) d L rfl]; iempintro
  · iapply (SparseCore.ent hrest) $$ H

/-- The chunk rows after a later trip: its own two chunks are in flight, the previous trip's two are back. -/
theorem rows_stepS (k : Fin k0_t1_loop.trips) (hk : k.val ≠ 0)
    (fc0 : Buf (Elt F) ((oChunkK L (tFin (k.val - 1)) 0).view.loc (V d (cV L) (jV L))))
    (fc1 : Buf (Elt F) ((oChunkK L (tFin (k.val - 1)) 1).view.loc (V d (cV L) (jV L)))) :
    iprop((bigSep (Finset.univ.erase k) fun t' : Fin k0_t1_loop.trips => rowSt (U := U) (F := F) d L k.val t')
      ∗ ((oChunkK L (tFin (k.val - 1)) 0).view.loc (V d (cV L) (jV L)) ↦[(oChunkK L (tFin (k.val - 1)) 0).view.set]{fullShare} fc0)
      ∗ ((oChunkK L (tFin (k.val - 1)) 1).view.loc (V d (cV L) (jV L)) ↦[(oChunkK L (tFin (k.val - 1)) 1).view.set]{fullShare} fc1))
    ⊢ bigSep Finset.univ fun t' : Fin k0_t1_loop.trips => rowSt (U := U) (F := F) d L (k.val + 1) t' := by
  have h40 := lt_of_lt_of_eq k.isLt k0_trips_eq
  have hkm : (tFin (k.val - 1)).val + 1 = k.val := by show min (k.val - 1) 39 + 1 = k.val; omega
  have hne : tFin (k.val - 1) ≠ k := fun h => by have := congrArg Fin.val h; omega
  have hmem : tFin (k.val - 1) ∈ Finset.univ.erase k := Finset.mem_erase.mpr ⟨hne, Finset.mem_univ _⟩
  have hrest : Idealize.SL.BI.Entails
      (bigSep ((Finset.univ.erase k).erase (tFin (k.val - 1))) fun t' : Fin k0_t1_loop.trips => rowSt (U := U) (F := F) d L k.val t')
      (bigSep ((Finset.univ.erase k).erase (tFin (k.val - 1))) fun t' : Fin k0_t1_loop.trips => rowSt (U := U) (F := F) d L (k.val + 1) t') :=
    bigSep_mono fun t' ht' => by
      have h1 : t' ≠ tFin (k.val - 1) := (Finset.mem_erase.mp ht').1
      have h2 : t' ≠ k := (Finset.mem_erase.mp (Finset.mem_erase.mp ht').2).1
      have e1 : t'.val + 1 ≠ k.val := fun h => h1 (Fin.ext (by omega))
      have e2 : t'.val + 1 ≠ k.val + 1 := fun h => h2 (Fin.ext (by omega))
      rw [rowSt_ne (F := F) (U := U) d L e1, rowSt_ne (F := F) (U := U) d L e2]
      exact BI.Entails.refl _
  iintro ⟨H, H0, H1⟩
  ihave Hs := (Entails.of_eq (SparseCore.bigSep_erase' (Φ := fun t' : Fin k0_t1_loop.trips => rowSt (U := U) (F := F) d L k.val t') hmem)) $$ H
  icases Hs with ⟨-, Hrest⟩
  iapply (Entails.of_eq (SparseCore.bigSep_erase' (Φ := fun t' : Fin k0_t1_loop.trips => rowSt (U := U) (F := F) d L (k.val + 1) t') (Finset.mem_univ k)).symm)
  isplitr
  · rw [rowSt_eq (F := F) (U := U) d L rfl]; iempintro
  iapply (Entails.of_eq (SparseCore.bigSep_erase' (Φ := fun t' : Fin k0_t1_loop.trips => rowSt (U := U) (F := F) d L (k.val + 1) t') hmem).symm)
  isplitl [H0 H1]
  · rw [rowSt_ne (F := F) (U := U) d L (show (tFin (k.val - 1)).val + 1 ≠ k.val + 1 by omega)]
    isplitl [H0]; · iexists fc0; iexact H0
    iexists fc1; iexact H1
  · iapply (SparseCore.ent hrest) $$ Hrest

set_option maxHeartbeats 8000000 in
/-- The first trip: no copy-out is pending. -/
theorem trip0 (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k0_t1_loop.trips) (hk : k.val = 0) (x : PUnit) :
    tripInv (U := U) d L Tx Ix O W k.val x
      ⊢ wp frame (wpE (defs₀ (F := F)) 𝒱₀ (V d (cV L) (jV L)) none) Set.univ
          (k0_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k x)
          fun y => tripInv (U := U) d L Tx Ix O W (k.val + 1) y := by
  have hc1 := cond1_zero hk
  have hc2 := cond2_zero hk
  have hrow : (k.val + 1 ≠ k.val) := Nat.succ_ne_self _
  unfold tripInv
  rw [if_pos hk, if_pos hk]
  unfold gFl0 gFl1
  iintro ⟨#Hmw, ⟨%fr0, %fr1, ⟨FG0, Hix0⟩, ⟨FG1, Hix1⟩⟩, ⟨%frr, Hrwr⟩, Hsh0, Hsh1, ⟨%fob, Hob, Hso0, Hso1⟩, Hrows, ⟨%W', %hW', HO⟩⟩
  ihave Hr := (Entails.of_eq (SparseCore.bigSep_erase' (Φ := fun t' : Fin k0_t1_loop.trips => rowSt (U := U) (F := F) d L k.val t') (Finset.mem_univ k))) $$ Hrows
  icases Hr with ⟨Hrow, Hrest⟩
  ihave Hrow' := (Entails.of_eq (rowSt_ne (F := F) (U := U) d L hrow)) $$ Hrow
  icases Hrow' with ⟨⟨%fc0, Hoc0⟩, ⟨%fc1, Hoc1⟩⟩
  unfold k0_t1_body
  -- slot 0: its gather waited for
  sl_exec
  -- slot 0 of the row scratch, back from its gather, joined to what is held of the scratch
  ihave Hj := (pts_join (F := F) (U := U) (sdiff_join_disj rw_slots_disjoint) fr0 frr) $$ [FG0_dst Hrwr]
  · isplitl [FG0_dst]; · iexact FG0_dst
    iexact Hrwr
  icases Hj with ⟨%g1, Hrw⟩
  rw [sdiff_join_left rw_slots_disjoint]
  -- the four sums of slot 0
  sl_for (fun (_ : Nat) (_ : PUnit) => (iprop(∃ fob' : Buf (Elt F) ((V d (cV L) (jV L)).loc cc0_scratch2),
      ((rwV).view.loc (V d (cV L) (jV L)) ↦[Finset.univ \ (rwK1).view.set]{fullShare} g1)
      ∗ ((obV).view.loc (V d (cV L) (jV L)) ↦{fullShare} fob')) : sProp 𝕄)) $$ [Hrw Hob]
  case region =>
    intro k2 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobA, Hrw, Hob⟩
  -- slot 0 copied out, its next gather started; slot 1's gather waited for
  sl_exec
  -- slot 1 of the row scratch joined
  ihave Hj := (pts_join (F := F) (U := U) (sdiff_join_disj rw_slots_disjoint.symm) fr1 _) $$ [FG1_dst Hrw]
  · isplitl [FG1_dst]; · iexact FG1_dst
    iexact Hrw
  icases Hj with ⟨%g2, Hrw⟩
  rw [sdiff_join_left rw_slots_disjoint.symm]
  -- the four sums of slot 1
  sl_for (fun (_ : Nat) (_ : PUnit) => (iprop(∃ fob' : Buf (Elt F) ((V d (cV L) (jV L)).loc cc0_scratch2),
      ((rwV).view.loc (V d (cV L) (jV L)) ↦[Finset.univ \ (rwK0).view.set]{fullShare} g2)
      ∗ ((obV).view.loc (V d (cV L) (jV L)) ↦[Finset.univ \ (obK0).view.set]{fullShare} fob')) : sProp 𝕄)) $$ [Hrw Hob]
  case region =>
    intro k3 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobB, Hrw, Hob⟩
  -- slot 1 copied out, its next gather started
  sl_exec
  sl_step
  -- the invariant, one trip on
  rw [if_neg (Nat.succ_ne_zero k.val), if_neg (Nat.succ_ne_zero k.val), Nat.add_sub_cancel, tFin_val]
  unfold oFl0 oFl1
  isplitr; · iexact Hmw
  isplitl [FG0 Hix0 FG1 Hix1]
  · iexists _; iexists _
    isplitl [FG0 Hix0]
    · isplitl [FG0]; · iexact FG0
      iexact Hix0
    · isplitl [FG1]; · iexact FG1
      iexact Hix1
  isplitl [Hrw]; · iexists _; iexact Hrw
  isplitl [Hsh0]; · iexact Hsh0
  isplitl [Hsh1]; · iexact Hsh1
  isplitl [Hso0 Hso1 Hob]
  · iexists _; iexists _; iexists _; iexists _; iexists _
    isplitl [Hso0]; · iexact Hso0
    isplitl [Hso1]; · iexact Hso1
    iexact Hob
  isplitl [Hrest]; · iapply (rows_step0 (F := F) (U := U) d L k hk); iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
/-- A later trip: the previous trip's two copy-outs are pending. -/
theorem tripS (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k0_t1_loop.trips) (hk : k.val ≠ 0) (x : PUnit) :
    tripInv (U := U) d L Tx Ix O W k.val x
      ⊢ wp frame (wpE (defs₀ (F := F)) 𝒱₀ (V d (cV L) (jV L)) none) Set.univ
          (k0_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k x)
          fun y => tripInv (U := U) d L Tx Ix O W (k.val + 1) y := by
  have hc1 := cond1_pos k hk
  have hc2 := cond2_pos k hk
  have hrow : (k.val + 1 ≠ k.val) := Nat.succ_ne_self _
  unfold tripInv
  rw [if_neg hk, if_neg hk]
  unfold gFl0 gFl1 oFl0 oFl1
  iintro ⟨#Hmw, ⟨%fr0, %fr1, ⟨FG0, Hix0⟩, ⟨FG1, Hix1⟩⟩, ⟨%frr, Hrwr⟩, Hsh0, Hsh1, ⟨%fob, %fc0p, %fc1p, %fob0, %fob1, FO0, FO1, Hobr⟩, Hrows, ⟨%W', %hW', HO⟩⟩
  ihave Hr := (Entails.of_eq (SparseCore.bigSep_erase' (Φ := fun t' : Fin k0_t1_loop.trips => rowSt (U := U) (F := F) d L k.val t') (Finset.mem_univ k))) $$ Hrows
  icases Hr with ⟨Hrow, Hrest⟩
  ihave Hrow' := (Entails.of_eq (rowSt_ne (F := F) (U := U) d L hrow)) $$ Hrow
  icases Hrow' with ⟨⟨%fc0, Hoc0⟩, ⟨%fc1, Hoc1⟩⟩
  unfold k0_t1_body
  -- slot 0: its gather waited for
  sl_exec
  -- slot 0 of the row scratch, back from its gather, joined to what is held of the scratch
  ihave Hj := (pts_join (F := F) (U := U) (sdiff_join_disj rw_slots_disjoint) fr0 frr) $$ [FG0_dst Hrwr]
  · isplitl [FG0_dst]; · iexact FG0_dst
    iexact Hrwr
  icases Hj with ⟨%g1, Hrw⟩
  rw [sdiff_join_left rw_slots_disjoint]
  -- slot 0 of the result scratch, back from its copy-out, joined to what is held of the scratch
  ihave Hjo := (pts_join (F := F) (U := U) (sdiff_join_disj ob_slots_disjoint) fob0 fob) $$ [FO0_src Hobr]
  · isplitl [FO0_src]; · iexact FO0_src
    iexact Hobr
  icases Hjo with ⟨%go1, Hob⟩
  rw [sdiff_join_left ob_slots_disjoint]
  -- the four sums of slot 0
  sl_for (fun (_ : Nat) (_ : PUnit) => (iprop(∃ fob' : Buf (Elt F) ((V d (cV L) (jV L)).loc cc0_scratch2),
      ((rwV).view.loc (V d (cV L) (jV L)) ↦[Finset.univ \ (rwK1).view.set]{fullShare} g1)
      ∗ ((obV).view.loc (V d (cV L) (jV L)) ↦[Finset.univ \ (obK1).view.set]{fullShare} fob')) : sProp 𝕄)) $$ [Hrw Hob]
  case region =>
    intro k2 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobA, Hrw, Hob⟩
  -- slot 0 copied out, its next gather started; slot 1's gather waited for
  sl_exec
  -- slot 1 of the row scratch joined
  ihave Hj := (pts_join (F := F) (U := U) (sdiff_join_disj rw_slots_disjoint.symm) fr1 _) $$ [FG1_dst Hrw]
  · isplitl [FG1_dst]; · iexact FG1_dst
    iexact Hrw
  icases Hj with ⟨%g2, Hrw⟩
  rw [sdiff_join_left rw_slots_disjoint.symm]
  -- slot 1 of the result scratch joined
  ihave Hjo := (pts_join (F := F) (U := U) (sdiff_join_disj ob_slots_disjoint.symm) fob1 _) $$ [FO1_src Hob]
  · isplitl [FO1_src]; · iexact FO1_src
    iexact Hob
  icases Hjo with ⟨%go2, Hob⟩
  rw [sdiff_join_left ob_slots_disjoint.symm]
  -- the four sums of slot 1
  sl_for (fun (_ : Nat) (_ : PUnit) => (iprop(∃ fob' : Buf (Elt F) ((V d (cV L) (jV L)).loc cc0_scratch2),
      ((rwV).view.loc (V d (cV L) (jV L)) ↦[Finset.univ \ (rwK0).view.set]{fullShare} g2)
      ∗ ((obV).view.loc (V d (cV L) (jV L)) ↦[Finset.univ \ (obK0).view.set]{fullShare} fob')) : sProp 𝕄)) $$ [Hrw Hob]
  case region =>
    intro k3 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobB, Hrw, Hob⟩
  -- slot 1 copied out, its next gather started
  sl_exec
  sl_step
  -- the invariant, one trip on
  rw [if_neg (Nat.succ_ne_zero k.val), if_neg (Nat.succ_ne_zero k.val), Nat.add_sub_cancel, tFin_val]
  isplitr; · iexact Hmw
  isplitl [FG0 Hix0 FG1 Hix1]
  · iexists _; iexists _
    isplitl [FG0 Hix0]
    · isplitl [FG0]; · iexact FG0
      iexact Hix0
    · isplitl [FG1]; · iexact FG1
      iexact Hix1
  isplitl [Hrw]; · iexists _; iexact Hrw
  isplitl [Hsh0]; · iexact Hsh0
  isplitl [Hsh1]; · iexact Hsh1
  isplitl [FO0 FO1 Hob]
  · iexists _; iexists _; iexists _; iexists _; iexists _
    isplitl [FO0]; · iexact FO0
    isplitl [FO1]; · iexact FO1
    iexact Hob
  isplitl [Hrest FO0_dst FO1_dst]
  · iapply (rows_stepS (F := F) (U := U) d L k hk fc0p fc1p)
    isplitl [Hrest]; · iexact Hrest
    isplitl [FO0_dst]; · iexact FO0_dst
    iexact FO1_dst
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One trip of the forty. -/
theorem trip_region (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k0_t1_loop.trips) (x : PUnit) :
    tripInv (U := U) d L Tx Ix O W k.val x
      ⊢ wp frame (wpE (defs₀ (F := F)) 𝒱₀ (V d (cV L) (jV L)) none) Set.univ
          (k0_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k x)
          fun y => tripInv (U := U) d L Tx Ix O W (k.val + 1) y := by
  by_cases hk : k.val = 0
  · exact trip0 (F := F) (U := U) d L Tx Ix hinR O W v2 k hk x
  · exact tripS (F := F) (U := U) d L Tx Ix hinR O W v2 k hk x

end Body
end Cert.Proof.Tile
end
-- ==== Proof.BodyStepV.lean ====
/-
  Small steps for the valued trips: joining pieces while keeping a piece's contents, the slots' elements, the chunk rows'
  three states and their update from trip to trip.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefs
import proofs.«205366_g3083786518796_cont_9to1_852_38_alg».proof.Proof.BodyLemmas
import proofs.«205366_g3083786518796_cont_9to1_852_38_alg».proof.Proof.BodyInv
import proofs.«205366_g3083786518796_cont_9to1_852_38_alg».proof.Proof.BodyJoin
import proofs.«205366_g3083786518796_cont_9to1_852_38_alg».proof.Proof.GSum
import proofs.«205366_g3083786518796_cont_9to1_852_38_alg».proof.Proof.BodyInvV
import proofs.«205366_g3083786518796_cont_9to1_852_38_alg».proof.Proof.BodyTrip
import Idealize.ShloMosaic.Lib.ValueIdx

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

section Body
variable (d : Dev nD) (L : grid0.Coords)

open Idealize.ShloMosaic.ValueIdx (ix1 ix2 ix3)

/-- Two pieces joined, the join keeping the first piece's contents on its elements. -/
theorem pts_joinV {ℓ : Loc nD τ sig} {q : PosShare TreeShare} {A B : Finset (Idx ℓ)} (h : Disjoint A B) (f g : Buf (Elt F) ℓ) :
    iprop((ℓ ↦[A]{q} f) ∗ (ℓ ↦[B]{q} g)) ⊢ (iprop(∃ h : Buf (Elt F) ℓ, ⌜∀ i ∈ A, h i = f i⌝ ∗ (ℓ ↦[A ∪ B]{q} h)) : sProp 𝕄) := by
  classical
  have e1 : (ℓ ↦[A]{q} f : sProp 𝕄) = ℓ ↦[A]{q} (fun i => if i ∈ A then f i else g i) := pointsTo_congr fun i hi => by simp [hi]
  have e2 : (ℓ ↦[B]{q} g : sProp 𝕄) = ℓ ↦[B]{q} (fun i => if i ∈ A then f i else g i) := pointsTo_congr fun i hi => by
    have : i ∉ A := fun ha => (Finset.disjoint_left.mp h ha hi)
    simp [this]
  iintro ⟨HA, HB⟩
  iexists (fun i => if i ∈ A then f i else g i)
  isplitr
  · ipureintro; intro i hi; simp [hi]
  ihave HA' := (Entails.of_eq e1) $$ HA
  ihave HB' := (Entails.of_eq e2) $$ HB
  iapply (pointsTo_split_subset (S := A ∪ B) (I := A) Finset.subset_union_left).2
  isplitl [HA']; · iexact HA'
  rw [Finset.union_sdiff_cancel_left h]; iexact HB'

theorem mem_rwK0 (r j : Fin 128) : (ix3 (0 : Fin 2) r j : S2x128x128.Idx) ∈ (rwK0).view.set := by
  rw [set_rwK0, Rect.mem_set_unit]
  intro a
  match a with
  | 0 => exact ⟨Nat.le_refl _, by show (0 : ℕ) < 0 + 1; omega⟩
  | 1 => exact ⟨Nat.zero_le _, by simpa using r.isLt⟩
  | 2 => exact ⟨Nat.zero_le _, by simpa using j.isLt⟩
theorem mem_rwK1 (r j : Fin 128) : (ix3 (1 : Fin 2) r j : S2x128x128.Idx) ∈ (rwK1).view.set := by
  rw [set_rwK1, Rect.mem_set_unit]
  intro a
  match a with
  | 0 => exact ⟨Nat.le_refl _, by show (1 : ℕ) < 1 + 1; omega⟩
  | 1 => exact ⟨Nat.zero_le _, by simpa using r.isLt⟩
  | 2 => exact ⟨Nat.zero_le _, by simpa using j.isLt⟩

section V
variable (Tx : S10000x128.Idx → Elt F .f32) (Ix : S32x10496.Idx → Elt F .i32)

theorem RowsOK_of_eq0 {n : ℕ} {f h : S2x128x128.Idx → Elt F .f32} (hf : RowsOK L Tx Ix 0 n f) (he : ∀ i ∈ (rwK0).view.set, h i = f i) : RowsOK L Tx Ix 0 n h :=
  fun r j => (he _ (mem_rwK0 r j)).trans (hf r j)
theorem RowsOK_of_eq1 {n : ℕ} {f h : S2x128x128.Idx → Elt F .f32} (hf : RowsOK L Tx Ix 1 n f) (he : ∀ i ∈ (rwK1).view.set, h i = f i) : RowsOK L Tx Ix 1 n h :=
  fun r j => (he _ (mem_rwK1 r j)).trans (hf r j)
theorem SumsOK_zero (b : Fin 2) (n : ℕ) (fob : S2x4x128.Idx → Elt F .f32) : SumsOK L Tx Ix b n 0 fob := fun _ _ h => absurd h (Nat.not_lt_zero _)

theorem rowStV_eq {t : ℕ} {t' : Fin k0_t1_loop.trips} (h : t'.val + 1 = t) : (rowStV (U := U) (F := F) d L Tx Ix t t' : sProp 𝕄) = iprop(emp) := by
  unfold rowStV; rw [if_pos h]
theorem rowStV_done {t : ℕ} {t' : Fin k0_t1_loop.trips} (h : t'.val + 1 ≠ t) (h2 : t'.val < t) :
    (rowStV (U := U) (F := F) d L Tx Ix t t' : sProp 𝕄)
      = iprop((∃ f, ⌜ChunkOK L Tx Ix t' 0 f⌝ ∗ ((oChunkK L t' 0).view.loc (V d (cV L) (jV L)) ↦[(oChunkK L t' 0).view.set]{fullShare} f))
        ∗ (∃ f, ⌜ChunkOK L Tx Ix t' 1 f⌝ ∗ ((oChunkK L t' 1).view.loc (V d (cV L) (jV L)) ↦[(oChunkK L t' 1).view.set]{fullShare} f))) := by
  unfold rowStV; rw [if_neg h, if_pos h2]
theorem rowStV_todo {t : ℕ} {t' : Fin k0_t1_loop.trips} (h : t'.val + 1 ≠ t) (h2 : ¬ t'.val < t) :
    (rowStV (U := U) (F := F) d L Tx Ix t t' : sProp 𝕄)
      = iprop((∃ f, (oChunkK L t' 0).view.loc (V d (cV L) (jV L)) ↦[(oChunkK L t' 0).view.set]{fullShare} f)
        ∗ (∃ f, (oChunkK L t' 1).view.loc (V d (cV L) (jV L)) ↦[(oChunkK L t' 1).view.set]{fullShare} f)) := by
  unfold rowStV; rw [if_neg h, if_neg h2]

/-- The chunk rows after the first trip. -/
theorem rows_step0V (k : Fin k0_t1_loop.trips) (hk : k.val = 0) :
    (bigSep (Finset.univ.erase k) fun t' : Fin k0_t1_loop.trips => rowStV (U := U) (F := F) d L Tx Ix k.val t')
    ⊢ bigSep Finset.univ fun t' : Fin k0_t1_loop.trips => rowStV (U := U) (F := F) d L Tx Ix (k.val + 1) t' := by
  have hrest : Idealize.SL.BI.Entails
      (bigSep (Finset.univ.erase k) fun t' : Fin k0_t1_loop.trips => rowStV (U := U) (F := F) d L Tx Ix k.val t')
      (bigSep (Finset.univ.erase k) fun t' : Fin k0_t1_loop.trips => rowStV (U := U) (F := F) d L Tx Ix (k.val + 1) t') :=
    bigSep_mono fun t' ht' => by
      have hne : t' ≠ k := (Finset.mem_erase.mp ht').1
      have hv : t'.val ≠ k.val := fun h => hne (Fin.ext h)
      rw [rowStV_todo (F := F) (U := U) d L Tx Ix (show t'.val + 1 ≠ k.val by omega) (show ¬ t'.val < k.val by omega),
        rowStV_todo (F := F) (U := U) d L Tx Ix (show t'.val + 1 ≠ k.val + 1 by omega) (show ¬ t'.val < k.val + 1 by omega)]
      exact BI.Entails.refl _
  iintro H
  iapply (Entails.of_eq (SparseCore.bigSep_erase' (Φ := fun t' : Fin k0_t1_loop.trips => rowStV (U := U) (F := F) d L Tx Ix (k.val + 1) t') (Finset.mem_univ k)).symm)
  isplitr
  · rw [rowStV_eq (F := F) (U := U) d L Tx Ix rfl]; iempintro
  · iapply (SparseCore.ent hrest) $$ H

/-- The chunk rows after a later trip: the previous trip's two chunks are back, holding their sums. -/
theorem rows_stepSV (k : Fin k0_t1_loop.trips) (hk : k.val ≠ 0)
    (fc0 : Buf (Elt F) ((oChunkK L (tFin (k.val - 1)) 0).view.loc (V d (cV L) (jV L))))
    (fc1 : Buf (Elt F) ((oChunkK L (tFin (k.val - 1)) 1).view.loc (V d (cV L) (jV L))))
    (h0 : ChunkOK L Tx Ix (tFin (k.val - 1)) 0 fc0) (h1 : ChunkOK L Tx Ix (tFin (k.val - 1)) 1 fc1) :
    iprop((bigSep (Finset.univ.erase k) fun t' : Fin k0_t1_loop.trips => rowStV (U := U) (F := F) d L Tx Ix k.val t')
      ∗ ((oChunkK L (tFin (k.val - 1)) 0).view.loc (V d (cV L) (jV L)) ↦[(oChunkK L (tFin (k.val - 1)) 0).view.set]{fullShare} fc0)
      ∗ ((oChunkK L (tFin (k.val - 1)) 1).view.loc (V d (cV L) (jV L)) ↦[(oChunkK L (tFin (k.val - 1)) 1).view.set]{fullShare} fc1))
    ⊢ bigSep Finset.univ fun t' : Fin k0_t1_loop.trips => rowStV (U := U) (F := F) d L Tx Ix (k.val + 1) t' := by
  have h40 := lt_of_lt_of_eq k.isLt k0_trips_eq
  have hkm : (tFin (k.val - 1)).val + 1 = k.val := by show min (k.val - 1) 39 + 1 = k.val; omega
  have hne : tFin (k.val - 1) ≠ k := fun h => by have := congrArg Fin.val h; omega
  have hmem : tFin (k.val - 1) ∈ Finset.univ.erase k := Finset.mem_erase.mpr ⟨hne, Finset.mem_univ _⟩
  have hrest : Idealize.SL.BI.Entails
      (bigSep ((Finset.univ.erase k).erase (tFin (k.val - 1))) fun t' : Fin k0_t1_loop.trips => rowStV (U := U) (F := F) d L Tx Ix k.val t')
      (bigSep ((Finset.univ.erase k).erase (tFin (k.val - 1))) fun t' : Fin k0_t1_loop.trips => rowStV (U := U) (F := F) d L Tx Ix (k.val + 1) t') :=
    bigSep_mono fun t' ht' => by
      have h1' : t' ≠ tFin (k.val - 1) := (Finset.mem_erase.mp ht').1
      have h2' : t' ≠ k := (Finset.mem_erase.mp (Finset.mem_erase.mp ht').2).1
      have e1 : t'.val + 1 ≠ k.val := fun h => h1' (Fin.ext (by omega))
      have e2 : t'.val ≠ k.val := fun h => h2' (Fin.ext h)
      by_cases hlt : t'.val < k.val
      · rw [rowStV_done (F := F) (U := U) d L Tx Ix e1 hlt, rowStV_done (F := F) (U := U) d L Tx Ix (show t'.val + 1 ≠ k.val + 1 by omega) (show t'.val < k.val + 1 by omega)]
        exact BI.Entails.refl _
      · rw [rowStV_todo (F := F) (U := U) d L Tx Ix e1 hlt, rowStV_todo (F := F) (U := U) d L Tx Ix (show t'.val + 1 ≠ k.val + 1 by omega) (show ¬ t'.val < k.val + 1 by omega)]
        exact BI.Entails.refl _
  iintro ⟨H, H0, H1⟩
  ihave Hs := (Entails.of_eq (SparseCore.bigSep_erase' (Φ := fun t' : Fin k0_t1_loop.trips => rowStV (U := U) (F := F) d L Tx Ix k.val t') hmem)) $$ H
  icases Hs with ⟨-, Hrest⟩
  iapply (Entails.of_eq (SparseCore.bigSep_erase' (Φ := fun t' : Fin k0_t1_loop.trips => rowStV (U := U) (F := F) d L Tx Ix (k.val + 1) t') (Finset.mem_univ k)).symm)
  isplitr
  · rw [rowStV_eq (F := F) (U := U) d L Tx Ix rfl]; iempintro
  iapply (Entails.of_eq (SparseCore.bigSep_erase' (Φ := fun t' : Fin k0_t1_loop.trips => rowStV (U := U) (F := F) d L Tx Ix (k.val + 1) t') hmem).symm)
  isplitl [H0 H1]
  · rw [rowStV_done (F := F) (U := U) d L Tx Ix (show (tFin (k.val - 1)).val + 1 ≠ k.val + 1 by omega) (show (tFin (k.val - 1)).val < k.val + 1 by omega)]
    isplitl [H0]
    · iexists fc0; isplitr; · ipureintro; exact h0
      iexact H0
    · iexists fc1; isplitr; · ipureintro; exact h1
      iexact H1
  · iapply (SparseCore.ent hrest) $$ Hrest

end V

end Body
end Cert.Proof.Tile
end
-- ==== Proof.ScTree.lean ====
import proofs.«205366_g3083786518796_cont_9to1_852_38_alg».proof.Proof.ScPay
import proofs.«205366_g3083786518796_cont_9to1_852_38_alg».proof.Proof.Gen.KernelIdeal.Skeleton
import Idealize.ShloMosaic.Lib.ValueIdx
import Idealize.ShloMosaic.Lib.Pipeline.Value

noncomputable section

/-!
# The tile's sum of 32 rows is the balanced tree, lane by lane

For one output row and one group of 16 lanes the tile loads 32 vectors (each a [1,1,16] slice, cast to [16]), adds
them in five levels of pairwise sums — (v0+v1), (v2+v3), …, then pairs of those, and so on — and stores the result
cast back to [1,1,16].  Lane `l` of what is stored is the same tree of the 32 numbers at lane `l`.
-/

namespace Cert.Proof.KI

open Cert.KernelIdeal Cert.KernelIdeal.Gen
open Idealize.ShloMosaic Idealize.ShloMosaic.ValueIdx

variable {F : FTy → Type} [FloatOps F]

/-- The two casts between [1,1,16] and [16] keep the lane. -/
theorem cast_16 (x : Vec F S1x1x16 .f32) (l : Fin 16) :
    (shapeCast S16 x shapeCasts_S1x1x16_S16 : FVec F S16 .f32) (ix1 l) = x (ix3 (0 : Fin 1) (0 : Fin 1) l) :=
  shapeCast_apply x shapeCasts_S1x1x16_S16 (ix1 l) (ix3 (0 : Fin 1) (0 : Fin 1) l) (by
    rw [Shape.rowMajor_val_three, Shape.rowMajor_val_one]
    show (0 * 1 + 0) * 16 + l.val = l.val
    omega)
theorem cast_116 (y : FVec F S16 .f32) (l : Fin 16) :
    (shapeCast S1x1x16 y shapeCasts_S16_S1x1x16 : FVec F S1x1x16 .f32) (ix3 (0 : Fin 1) (0 : Fin 1) l) = y (ix1 l) :=
  shapeCast_apply y shapeCasts_S16_S1x1x16 (ix3 (0 : Fin 1) (0 : Fin 1) l) (ix1 l) (by
    rw [Shape.rowMajor_val_three, Shape.rowMajor_val_one]
    show l.val = (0 * 1 + 0) * 16 + l.val
    omega)

/-- The five levels of pairwise sums, on 16-lane vectors. -/
def treeV (v : Fin 32 → FVec F S16 .f32) : FVec F S16 .f32 :=
  let l1 : Fin 16 → FVec F S16 .f32 := fun t => addf (v ⟨2 * t.val, by omega⟩) (v ⟨2 * t.val + 1, by omega⟩)
  let l2 : Fin 8 → FVec F S16 .f32 := fun t => addf (l1 ⟨2 * t.val, by omega⟩) (l1 ⟨2 * t.val + 1, by omega⟩)
  let l3 : Fin 4 → FVec F S16 .f32 := fun t => addf (l2 ⟨2 * t.val, by omega⟩) (l2 ⟨2 * t.val + 1, by omega⟩)
  let l4 : Fin 2 → FVec F S16 .f32 := fun t => addf (l3 ⟨2 * t.val, by omega⟩) (l3 ⟨2 * t.val + 1, by omega⟩)
  addf (l4 0) (l4 1)

/-- Lane by lane it is the tree of the 32 numbers. -/
theorem treeV_apply (v : Fin 32 → FVec F S16 .f32) (j : S16.Idx) : treeV v j = tree32 fun k => v k j := rfl

/-- The stored vector of the cast loads: lane `l` is the tree of the 32 loaded numbers at lane `l`. -/
theorem stored_tree (L : Fin 32 → Vec F S1x1x16 .f32) (l : Fin 16) :
    (shapeCast S1x1x16 (treeV fun k => (shapeCast S16 (L k) shapeCasts_S1x1x16_S16 : FVec F S16 .f32)) shapeCasts_S16_S1x1x16 : FVec F S1x1x16 .f32)
        (ix3 (0 : Fin 1) (0 : Fin 1) l)
      = tree32 fun k => L k (ix3 (0 : Fin 1) (0 : Fin 1) l) :=
  (cast_116 _ l).trans ((treeV_apply _ (ix1 l)).trans (congrArg tree32 (funext fun k => cast_16 (L k) l)))

set_option maxRecDepth 4096 in
/-- Lane group 0 of the first loop: the store's payload of the 32 loads (29 cast by the earlier payloads, 3 cast inside)
    is that stored vector. -/
theorem k0_pay30_eq (L : Fin 32 → Vec F S1x1x16 .f32) :
    k0_pay30 (k0_pay1 (L 0)) (k0_pay2 (L 1)) (k0_pay3 (L 2)) (k0_pay4 (L 3)) (k0_pay5 (L 4)) (k0_pay6 (L 5)) (k0_pay7 (L 6)) (k0_pay8 (L 7)) (k0_pay9 (L 8)) (k0_pay10 (L 9)) (k0_pay11 (L 10)) (k0_pay12 (L 11)) (k0_pay13 (L 12)) (k0_pay14 (L 13)) (k0_pay15 (L 14)) (k0_pay16 (L 15)) (k0_pay17 (L 16)) (k0_pay18 (L 17)) (k0_pay19 (L 18)) (k0_pay20 (L 19)) (k0_pay21 (L 20)) (k0_pay22 (L 21)) (k0_pay23 (L 22)) (k0_pay24 (L 23)) (k0_pay25 (L 24)) (k0_pay26 (L 25)) (k0_pay27 (L 26)) (k0_pay28 (L 27)) (k0_pay29 (L 28)) (L 29) (L 30) (L 31)
      = shapeCast S1x1x16 (treeV fun k => (shapeCast S16 (L k) shapeCasts_S1x1x16_S16 : FVec F S16 .f32)) shapeCasts_S16_S1x1x16 := rfl

theorem k0_pay30_loads (L : Fin 32 → Vec F S1x1x16 .f32) (l : Fin 16) :
    k0_pay30 (k0_pay1 (L 0)) (k0_pay2 (L 1)) (k0_pay3 (L 2)) (k0_pay4 (L 3)) (k0_pay5 (L 4)) (k0_pay6 (L 5)) (k0_pay7 (L 6)) (k0_pay8 (L 7)) (k0_pay9 (L 8)) (k0_pay10 (L 9)) (k0_pay11 (L 10)) (k0_pay12 (L 11)) (k0_pay13 (L 12)) (k0_pay14 (L 13)) (k0_pay15 (L 14)) (k0_pay16 (L 15)) (k0_pay17 (L 16)) (k0_pay18 (L 17)) (k0_pay19 (L 18)) (k0_pay20 (L 19)) (k0_pay21 (L 20)) (k0_pay22 (L 21)) (k0_pay23 (L 22)) (k0_pay24 (L 23)) (k0_pay25 (L 24)) (k0_pay26 (L 25)) (k0_pay27 (L 26)) (k0_pay28 (L 27)) (k0_pay29 (L 28)) (L 29) (L 30) (L 31) (ix3 (0 : Fin 1) (0 : Fin 1) l)
      = tree32 fun k => L k (ix3 (0 : Fin 1) (0 : Fin 1) l) := by
  rw [k0_pay30_eq]
  exact stored_tree L l

end Cert.Proof.KI

end
-- ==== Proof.ScTree0.lean ====
import proofs.«205366_g3083786518796_cont_9to1_852_38_alg».proof.Proof.ScTree

noncomputable section

/-!
# The first SparseCore kernel's summing payloads, read at a lane

For every payload of the kernel that adds vectors: `_lane` says the payload at lane `l` is the same pairwise sums of its
arguments' lanes.  For a store's payload (and for the last partial payload of lane group 7, which takes the sixteen
first-level sums): `_tree` says it is `tree32 w` once each argument's lane is known to be the sub-tree of `w` over the
positions that argument stands for — one load, or an earlier part's sum of 2, 4, … loads.
-/

namespace Cert.Proof.KI

open Cert.KernelIdeal Cert.KernelIdeal.Gen
open Idealize.ShloMosaic Idealize.ShloMosaic.ValueIdx

variable {F : FTy → Type} [FloatOps F]

theorem k0_pay1_lane (v114 : Vec F S1x1x16 .f32) (l : Fin 16) :
    k0_pay1 v114 (ix1 l) = v114 (ix3 (0 : Fin 1) (0 : Fin 1) l) := by
  unfold k0_pay1
  exact cast_16 v114 l

theorem k0_pay2_lane (v119 : Vec F S1x1x16 .f32) (l : Fin 16) :
    k0_pay2 v119 (ix1 l) = v119 (ix3 (0 : Fin 1) (0 : Fin 1) l) := by
  unfold k0_pay2
  exact cast_16 v119 l

theorem k0_pay3_lane (v124 : Vec F S1x1x16 .f32) (l : Fin 16) :
    k0_pay3 v124 (ix1 l) = v124 (ix3 (0 : Fin 1) (0 : Fin 1) l) := by
  unfold k0_pay3
  exact cast_16 v124 l

theorem k0_pay4_lane (v129 : Vec F S1x1x16 .f32) (l : Fin 16) :
    k0_pay4 v129 (ix1 l) = v129 (ix3 (0 : Fin 1) (0 : Fin 1) l) := by
  unfold k0_pay4
  exact cast_16 v129 l

theorem k0_pay5_lane (v134 : Vec F S1x1x16 .f32) (l : Fin 16) :
    k0_pay5 v134 (ix1 l) = v134 (ix3 (0 : Fin 1) (0 : Fin 1) l) := by
  unfold k0_pay5
  exact cast_16 v134 l

theorem k0_pay6_lane (v139 : Vec F S1x1x16 .f32) (l : Fin 16) :
    k0_pay6 v139 (ix1 l) = v139 (ix3 (0 : Fin 1) (0 : Fin 1) l) := by
  unfold k0_pay6
  exact cast_16 v139 l

theorem k0_pay7_lane (v144 : Vec F S1x1x16 .f32) (l : Fin 16) :
    k0_pay7 v144 (ix1 l) = v144 (ix3 (0 : Fin 1) (0 : Fin 1) l) := by
  unfold k0_pay7
  exact cast_16 v144 l

theorem k0_pay8_lane (v149 : Vec F S1x1x16 .f32) (l : Fin 16) :
    k0_pay8 v149 (ix1 l) = v149 (ix3 (0 : Fin 1) (0 : Fin 1) l) := by
  unfold k0_pay8
  exact cast_16 v149 l

theorem k0_pay9_lane (v154 : Vec F S1x1x16 .f32) (l : Fin 16) :
    k0_pay9 v154 (ix1 l) = v154 (ix3 (0 : Fin 1) (0 : Fin 1) l) := by
  unfold k0_pay9
  exact cast_16 v154 l

theorem k0_pay10_lane (v159 : Vec F S1x1x16 .f32) (l : Fin 16) :
    k0_pay10 v159 (ix1 l) = v159 (ix3 (0 : Fin 1) (0 : Fin 1) l) := by
  unfold k0_pay10
  exact cast_16 v159 l

theorem k0_pay11_lane (v164 : Vec F S1x1x16 .f32) (l : Fin 16) :
    k0_pay11 v164 (ix1 l) = v164 (ix3 (0 : Fin 1) (0 : Fin 1) l) := by
  unfold k0_pay11
  exact cast_16 v164 l

theorem k0_pay12_lane (v169 : Vec F S1x1x16 .f32) (l : Fin 16) :
    k0_pay12 v169 (ix1 l) = v169 (ix3 (0 : Fin 1) (0 : Fin 1) l) := by
  unfold k0_pay12
  exact cast_16 v169 l

theorem k0_pay13_lane (v174 : Vec F S1x1x16 .f32) (l : Fin 16) :
    k0_pay13 v174 (ix1 l) = v174 (ix3 (0 : Fin 1) (0 : Fin 1) l) := by
  unfold k0_pay13
  exact cast_16 v174 l

theorem k0_pay14_lane (v179 : Vec F S1x1x16 .f32) (l : Fin 16) :
    k0_pay14 v179 (ix1 l) = v179 (ix3 (0 : Fin 1) (0 : Fin 1) l) := by
  unfold k0_pay14
  exact cast_16 v179 l

theorem k0_pay15_lane (v184 : Vec F S1x1x16 .f32) (l : Fin 16) :
    k0_pay15 v184 (ix1 l) = v184 (ix3 (0 : Fin 1) (0 : Fin 1) l) := by
  unfold k0_pay15
  exact cast_16 v184 l

theorem k0_pay16_lane (v189 : Vec F S1x1x16 .f32) (l : Fin 16) :
    k0_pay16 v189 (ix1 l) = v189 (ix3 (0 : Fin 1) (0 : Fin 1) l) := by
  unfold k0_pay16
  exact cast_16 v189 l

theorem k0_pay17_lane (v194 : Vec F S1x1x16 .f32) (l : Fin 16) :
    k0_pay17 v194 (ix1 l) = v194 (ix3 (0 : Fin 1) (0 : Fin 1) l) := by
  unfold k0_pay17
  exact cast_16 v194 l

theorem k0_pay18_lane (v199 : Vec F S1x1x16 .f32) (l : Fin 16) :
    k0_pay18 v199 (ix1 l) = v199 (ix3 (0 : Fin 1) (0 : Fin 1) l) := by
  unfold k0_pay18
  exact cast_16 v199 l

theorem k0_pay19_lane (v204 : Vec F S1x1x16 .f32) (l : Fin 16) :
    k0_pay19 v204 (ix1 l) = v204 (ix3 (0 : Fin 1) (0 : Fin 1) l) := by
  unfold k0_pay19
  exact cast_16 v204 l

theorem k0_pay20_lane (v209 : Vec F S1x1x16 .f32) (l : Fin 16) :
    k0_pay20 v209 (ix1 l) = v209 (ix3 (0 : Fin 1) (0 : Fin 1) l) := by
  unfold k0_pay20
  exact cast_16 v209 l

theorem k0_pay21_lane (v214 : Vec F S1x1x16 .f32) (l : Fin 16) :
    k0_pay21 v214 (ix1 l) = v214 (ix3 (0 : Fin 1) (0 : Fin 1) l) := by
  unfold k0_pay21
  exact cast_16 v214 l

theorem k0_pay22_lane (v219 : Vec F S1x1x16 .f32) (l : Fin 16) :
    k0_pay22 v219 (ix1 l) = v219 (ix3 (0 : Fin 1) (0 : Fin 1) l) := by
  unfold k0_pay22
  exact cast_16 v219 l

theorem k0_pay23_lane (v224 : Vec F S1x1x16 .f32) (l : Fin 16) :
    k0_pay23 v224 (ix1 l) = v224 (ix3 (0 : Fin 1) (0 : Fin 1) l) := by
  unfold k0_pay23
  exact cast_16 v224 l

theorem k0_pay24_lane (v229 : Vec F S1x1x16 .f32) (l : Fin 16) :
    k0_pay24 v229 (ix1 l) = v229 (ix3 (0 : Fin 1) (0 : Fin 1) l) := by
  unfold k0_pay24
  exact cast_16 v229 l

theorem k0_pay25_lane (v234 : Vec F S1x1x16 .f32) (l : Fin 16) :
    k0_pay25 v234 (ix1 l) = v234 (ix3 (0 : Fin 1) (0 : Fin 1) l) := by
  unfold k0_pay25
  exact cast_16 v234 l

theorem k0_pay26_lane (v239 : Vec F S1x1x16 .f32) (l : Fin 16) :
    k0_pay26 v239 (ix1 l) = v239 (ix3 (0 : Fin 1) (0 : Fin 1) l) := by
  unfold k0_pay26
  exact cast_16 v239 l

theorem k0_pay27_lane (v244 : Vec F S1x1x16 .f32) (l : Fin 16) :
    k0_pay27 v244 (ix1 l) = v244 (ix3 (0 : Fin 1) (0 : Fin 1) l) := by
  unfold k0_pay27
  exact cast_16 v244 l

theorem k0_pay28_lane (v249 : Vec F S1x1x16 .f32) (l : Fin 16) :
    k0_pay28 v249 (ix1 l) = v249 (ix3 (0 : Fin 1) (0 : Fin 1) l) := by
  unfold k0_pay28
  exact cast_16 v249 l

theorem k0_pay29_lane (v254 : Vec F S1x1x16 .f32) (l : Fin 16) :
    k0_pay29 v254 (ix1 l) = v254 (ix3 (0 : Fin 1) (0 : Fin 1) l) := by
  unfold k0_pay29
  exact cast_16 v254 l

theorem k0_pay30_lane (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (l : Fin 16) :
    k0_pay30 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = FloatOps.addf (FloatOps.addf (FloatOps.addf (FloatOps.addf (FloatOps.addf (v115 (ix1 l)) (v120 (ix1 l))) (FloatOps.addf (v125 (ix1 l)) (v130 (ix1 l)))) (FloatOps.addf (FloatOps.addf (v135 (ix1 l)) (v140 (ix1 l))) (FloatOps.addf (v145 (ix1 l)) (v150 (ix1 l))))) (FloatOps.addf (FloatOps.addf (FloatOps.addf (v155 (ix1 l)) (v160 (ix1 l))) (FloatOps.addf (v165 (ix1 l)) (v170 (ix1 l)))) (FloatOps.addf (FloatOps.addf (v175 (ix1 l)) (v180 (ix1 l))) (FloatOps.addf (v185 (ix1 l)) (v190 (ix1 l)))))) (FloatOps.addf (FloatOps.addf (FloatOps.addf (FloatOps.addf (v195 (ix1 l)) (v200 (ix1 l))) (FloatOps.addf (v205 (ix1 l)) (v210 (ix1 l)))) (FloatOps.addf (FloatOps.addf (v215 (ix1 l)) (v220 (ix1 l))) (FloatOps.addf (v225 (ix1 l)) (v230 (ix1 l))))) (FloatOps.addf (FloatOps.addf (FloatOps.addf (v235 (ix1 l)) (v240 (ix1 l))) (FloatOps.addf (v245 (ix1 l)) (v250 (ix1 l)))) (FloatOps.addf (FloatOps.addf (v255 (ix1 l)) (v259 (ix3 (0 : Fin 1) (0 : Fin 1) l))) (FloatOps.addf (v264 (ix3 (0 : Fin 1) (0 : Fin 1) l)) (v269 (ix3 (0 : Fin 1) (0 : Fin 1) l)))))) := by
  unfold k0_pay30
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (cast_16 v259 l)) (congrArg₂ FloatOps.addf (cast_16 v264 l) (cast_16 v269 l)))))

theorem k0_pay30_tree (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (w : Fin 32 → F .f32) (l : Fin 16)
    (h_v115 : v115 (ix1 l) = w 0)
    (h_v120 : v120 (ix1 l) = w 1)
    (h_v125 : v125 (ix1 l) = w 2)
    (h_v130 : v130 (ix1 l) = w 3)
    (h_v135 : v135 (ix1 l) = w 4)
    (h_v140 : v140 (ix1 l) = w 5)
    (h_v145 : v145 (ix1 l) = w 6)
    (h_v150 : v150 (ix1 l) = w 7)
    (h_v155 : v155 (ix1 l) = w 8)
    (h_v160 : v160 (ix1 l) = w 9)
    (h_v165 : v165 (ix1 l) = w 10)
    (h_v170 : v170 (ix1 l) = w 11)
    (h_v175 : v175 (ix1 l) = w 12)
    (h_v180 : v180 (ix1 l) = w 13)
    (h_v185 : v185 (ix1 l) = w 14)
    (h_v190 : v190 (ix1 l) = w 15)
    (h_v195 : v195 (ix1 l) = w 16)
    (h_v200 : v200 (ix1 l) = w 17)
    (h_v205 : v205 (ix1 l) = w 18)
    (h_v210 : v210 (ix1 l) = w 19)
    (h_v215 : v215 (ix1 l) = w 20)
    (h_v220 : v220 (ix1 l) = w 21)
    (h_v225 : v225 (ix1 l) = w 22)
    (h_v230 : v230 (ix1 l) = w 23)
    (h_v235 : v235 (ix1 l) = w 24)
    (h_v240 : v240 (ix1 l) = w 25)
    (h_v245 : v245 (ix1 l) = w 26)
    (h_v250 : v250 (ix1 l) = w 27)
    (h_v255 : v255 (ix1 l) = w 28)
    (h_v259 : v259 (ix3 (0 : Fin 1) (0 : Fin 1) l) = w 29)
    (h_v264 : v264 (ix3 (0 : Fin 1) (0 : Fin 1) l) = w 30)
    (h_v269 : v269 (ix3 (0 : Fin 1) (0 : Fin 1) l) = w 31) :
    k0_pay30 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = tree32 w := by
  unfold k0_pay30
  refine (cast_116 _ l).trans ?_
  exact congrArg₂ FloatOps.addf (congrArg₂ FloatOps.addf (congrArg₂ FloatOps.addf (congrArg₂ FloatOps.addf (congrArg₂ FloatOps.addf (h_v115) (h_v120)) (congrArg₂ FloatOps.addf (h_v125) (h_v130))) (congrArg₂ FloatOps.addf (congrArg₂ FloatOps.addf (h_v135) (h_v140)) (congrArg₂ FloatOps.addf (h_v145) (h_v150)))) (congrArg₂ FloatOps.addf (congrArg₂ FloatOps.addf (congrArg₂ FloatOps.addf (h_v155) (h_v160)) (congrArg₂ FloatOps.addf (h_v165) (h_v170))) (congrArg₂ FloatOps.addf (congrArg₂ FloatOps.addf (h_v175) (h_v180)) (congrArg₂ FloatOps.addf (h_v185) (h_v190))))) (congrArg₂ FloatOps.addf (congrArg₂ FloatOps.addf (congrArg₂ FloatOps.addf (congrArg₂ FloatOps.addf (h_v195) (h_v200)) (congrArg₂ FloatOps.addf (h_v205) (h_v210))) (congrArg₂ FloatOps.addf (congrArg₂ FloatOps.addf (h_v215) (h_v220)) (congrArg₂ FloatOps.addf (h_v225) (h_v230)))) (congrArg₂ FloatOps.addf (congrArg₂ FloatOps.addf (congrArg₂ FloatOps.addf (h_v235) (h_v240)) (congrArg₂ FloatOps.addf (h_v245) (h_v250))) (congrArg₂ FloatOps.addf (congrArg₂ FloatOps.addf (h_v255) ((cast_16 v259 l).trans h_v259)) (congrArg₂ FloatOps.addf ((cast_16 v264 l).trans h_v264) ((cast_16 v269 l).trans h_v269)))))

theorem k0_pay31_lane (v310 : Vec F S1x1x16 .f32) (l : Fin 16) :
    k0_pay31 v310 (ix1 l) = v310 (ix3 (0 : Fin 1) (0 : Fin 1) l) := by
  unfold k0_pay31
  exact cast_16 v310 l

theorem k0_pay32_lane (v315 : Vec F S1x1x16 .f32) (l : Fin 16) :
    k0_pay32 v315 (ix1 l) = v315 (ix3 (0 : Fin 1) (0 : Fin 1) l) := by
  unfold k0_pay32
  exact cast_16 v315 l

theorem k0_pay33_lane (v320 : Vec F S1x1x16 .f32) (l : Fin 16) :
    k0_pay33 v320 (ix1 l) = v320 (ix3 (0 : Fin 1) (0 : Fin 1) l) := by
  unfold k0_pay33
  exact cast_16 v320 l

theorem k0_pay34_lane (v325 : Vec F S1x1x16 .f32) (l : Fin 16) :
    k0_pay34 v325 (ix1 l) = v325 (ix3 (0 : Fin 1) (0 : Fin 1) l) := by
  unfold k0_pay34
  exact cast_16 v325 l

theorem k0_pay35_lane (v330 : Vec F S1x1x16 .f32) (l : Fin 16) :
    k0_pay35 v330 (ix1 l) = v330 (ix3 (0 : Fin 1) (0 : Fin 1) l) := by
  unfold k0_pay35
  exact cast_16 v330 l

theorem k0_pay36_lane (v335 : Vec F S1x1x16 .f32) (l : Fin 16) :
    k0_pay36 v335 (ix1 l) = v335 (ix3 (0 : Fin 1) (0 : Fin 1) l) := by
  unfold k0_pay36
  exact cast_16 v335 l

theorem k0_pay37_lane (v340 : Vec F S1x1x16 .f32) (l : Fin 16) :
    k0_pay37 v340 (ix1 l) = v340 (ix3 (0 : Fin 1) (0 : Fin 1) l) := by
  unfold k0_pay37
  exact cast_16 v340 l

theorem k0_pay38_lane (v345 : Vec F S1x1x16 .f32) (l : Fin 16) :
    k0_pay38 v345 (ix1 l) = v345 (ix3 (0 : Fin 1) (0 : Fin 1) l) := by
  unfold k0_pay38
  exact cast_16 v345 l

theorem k0_pay39_lane (v350 : Vec F S1x1x16 .f32) (l : Fin 16) :
    k0_pay39 v350 (ix1 l) = v350 (ix3 (0 : Fin 1) (0 : Fin 1) l) := by
  unfold k0_pay39
  exact cast_16 v350 l

theorem k0_pay40_lane (v355 : Vec F S1x1x16 .f32) (l : Fin 16) :
    k0_pay40 v355 (ix1 l) = v355 (ix3 (0 : Fin 1) (0 : Fin 1) l) := by
  unfold k0_pay40
  exact cast_16 v355 l

theorem k0_pay41_lane (v360 : Vec F S1x1x16 .f32) (l : Fin 16) :
    k0_pay41 v360 (ix1 l) = v360 (ix3 (0 : Fin 1) (0 : Fin 1) l) := by
  unfold k0_pay41
  exact cast_16 v360 l

theorem k0_pay42_lane (v365 : Vec F S1x1x16 .f32) (l : Fin 16) :
    k0_pay42 v365 (ix1 l) = v365 (ix3 (0 : Fin 1) (0 : Fin 1) l) := by
  unfold k0_pay42
  exact cast_16 v365 l

theorem k0_pay43_lane (v370 : Vec F S1x1x16 .f32) (l : Fin 16) :
    k0_pay43 v370 (ix1 l) = v370 (ix3 (0 : Fin 1) (0 : Fin 1) l) := by
  unfold k0_pay43
  exact cast_16 v370 l

theorem k0_pay44_lane (v375 : Vec F S1x1x16 .f32) (l : Fin 16) :
    k0_pay44 v375 (ix1 l) = v375 (ix3 (0 : Fin 1) (0 : Fin 1) l) := by
  unfold k0_pay44
  exact cast_16 v375 l

theorem k0_pay45_lane (v380 : Vec F S1x1x16 .f32) (l : Fin 16) :
    k0_pay45 v380 (ix1 l) = v380 (ix3 (0 : Fin 1) (0 : Fin 1) l) := by
  unfold k0_pay45
  exact cast_16 v380 l

theorem k0_pay46_lane (v385 : Vec F S1x1x16 .f32) (l : Fin 16) :
    k0_pay46 v385 (ix1 l) = v385 (ix3 (0 : Fin 1) (0 : Fin 1) l) := by
  unfold k0_pay46
  exact cast_16 v385 l

theorem k0_pay47_lane (v390 : Vec F S1x1x16 .f32) (l : Fin 16) :
    k0_pay47 v390 (ix1 l) = v390 (ix3 (0 : Fin 1) (0 : Fin 1) l) := by
  unfold k0_pay47
  exact cast_16 v390 l

theorem k0_pay48_lane (v395 : Vec F S1x1x16 .f32) (l : Fin 16) :
    k0_pay48 v395 (ix1 l) = v395 (ix3 (0 : Fin 1) (0 : Fin 1) l) := by
  unfold k0_pay48
  exact cast_16 v395 l

theorem k0_pay49_lane (v400 : Vec F S1x1x16 .f32) (l : Fin 16) :
    k0_pay49 v400 (ix1 l) = v400 (ix3 (0 : Fin 1) (0 : Fin 1) l) := by
  unfold k0_pay49
  exact cast_16 v400 l

theorem k0_pay50_lane (v405 : Vec F S1x1x16 .f32) (l : Fin 16) :
    k0_pay50 v405 (ix1 l) = v405 (ix3 (0 : Fin 1) (0 : Fin 1) l) := by
  unfold k0_pay50
  exact cast_16 v405 l

theorem k0_pay51_lane (v410 : Vec F S1x1x16 .f32) (l : Fin 16) :
    k0_pay51 v410 (ix1 l) = v410 (ix3 (0 : Fin 1) (0 : Fin 1) l) := by
  unfold k0_pay51
  exact cast_16 v410 l

theorem k0_pay52_lane (v415 : Vec F S1x1x16 .f32) (l : Fin 16) :
    k0_pay52 v415 (ix1 l) = v415 (ix3 (0 : Fin 1) (0 : Fin 1) l) := by
  unfold k0_pay52
  exact cast_16 v415 l

theorem k0_pay53_lane (v420 : Vec F S1x1x16 .f32) (l : Fin 16) :
    k0_pay53 v420 (ix1 l) = v420 (ix3 (0 : Fin 1) (0 : Fin 1) l) := by
  unfold k0_pay53
  exact cast_16 v420 l

theorem k0_pay54_lane (v425 : Vec F S1x1x16 .f32) (l : Fin 16) :
    k0_pay54 v425 (ix1 l) = v425 (ix3 (0 : Fin 1) (0 : Fin 1) l) := by
  unfold k0_pay54
  exact cast_16 v425 l

theorem k0_pay55_lane (v430 : Vec F S1x1x16 .f32) (l : Fin 16) :
    k0_pay55 v430 (ix1 l) = v430 (ix3 (0 : Fin 1) (0 : Fin 1) l) := by
  unfold k0_pay55
  exact cast_16 v430 l

theorem k0_pay56_lane (v435 : Vec F S1x1x16 .f32) (l : Fin 16) :
    k0_pay56 v435 (ix1 l) = v435 (ix3 (0 : Fin 1) (0 : Fin 1) l) := by
  unfold k0_pay56
  exact cast_16 v435 l

theorem k0_pay57_lane (v440 : Vec F S1x1x16 .f32) (l : Fin 16) :
    k0_pay57 v440 (ix1 l) = v440 (ix3 (0 : Fin 1) (0 : Fin 1) l) := by
  unfold k0_pay57
  exact cast_16 v440 l

theorem k0_pay58_lane (v445 : Vec F S1x1x16 .f32) (l : Fin 16) :
    k0_pay58 v445 (ix1 l) = v445 (ix3 (0 : Fin 1) (0 : Fin 1) l) := by
  unfold k0_pay58
  exact cast_16 v445 l

theorem k0_pay59_lane (v450 : Vec F S1x1x16 .f32) (l : Fin 16) :
    k0_pay59 v450 (ix1 l) = v450 (ix3 (0 : Fin 1) (0 : Fin 1) l) := by
  unfold k0_pay59
  exact cast_16 v450 l

theorem k0_pay60_lane (v455 : Vec F S1x1x16 .f32) (l : Fin 16) :
    k0_pay60 v455 (ix1 l) = v455 (ix3 (0 : Fin 1) (0 : Fin 1) l) := by
  unfold k0_pay60
  exact cast_16 v455 l

theorem k0_pay61_lane (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (l : Fin 16) :
    k0_pay61 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = FloatOps.addf (FloatOps.addf (FloatOps.addf (FloatOps.addf (FloatOps.addf (v311 (ix1 l)) (v316 (ix1 l))) (FloatOps.addf (v321 (ix1 l)) (v326 (ix1 l)))) (FloatOps.addf (FloatOps.addf (v331 (ix1 l)) (v336 (ix1 l))) (FloatOps.addf (v341 (ix1 l)) (v346 (ix1 l))))) (FloatOps.addf (FloatOps.addf (FloatOps.addf (v351 (ix1 l)) (v356 (ix1 l))) (FloatOps.addf (v361 (ix1 l)) (v366 (ix1 l)))) (FloatOps.addf (FloatOps.addf (v371 (ix1 l)) (v376 (ix1 l))) (FloatOps.addf (v381 (ix1 l)) (v386 (ix1 l)))))) (FloatOps.addf (FloatOps.addf (FloatOps.addf (FloatOps.addf (v391 (ix1 l)) (v396 (ix1 l))) (FloatOps.addf (v401 (ix1 l)) (v406 (ix1 l)))) (FloatOps.addf (FloatOps.addf (v411 (ix1 l)) (v416 (ix1 l))) (FloatOps.addf (v421 (ix1 l)) (v426 (ix1 l))))) (FloatOps.addf (FloatOps.addf (FloatOps.addf (v431 (ix1 l)) (v436 (ix1 l))) (FloatOps.addf (v441 (ix1 l)) (v446 (ix1 l)))) (FloatOps.addf (FloatOps.addf (v451 (ix1 l)) (v456 (ix1 l))) (FloatOps.addf (v460 (ix3 (0 : Fin 1) (0 : Fin 1) l)) (v465 (ix3 (0 : Fin 1) (0 : Fin 1) l)))))) := by
  unfold k0_pay61
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v460 l) (cast_16 v465 l)))))

theorem k0_pay61_tree (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (w : Fin 32 → F .f32) (l : Fin 16)
    (h_v311 : v311 (ix1 l) = w 0)
    (h_v316 : v316 (ix1 l) = w 1)
    (h_v321 : v321 (ix1 l) = w 2)
    (h_v326 : v326 (ix1 l) = w 3)
    (h_v331 : v331 (ix1 l) = w 4)
    (h_v336 : v336 (ix1 l) = w 5)
    (h_v341 : v341 (ix1 l) = w 6)
    (h_v346 : v346 (ix1 l) = w 7)
    (h_v351 : v351 (ix1 l) = w 8)
    (h_v356 : v356 (ix1 l) = w 9)
    (h_v361 : v361 (ix1 l) = w 10)
    (h_v366 : v366 (ix1 l) = w 11)
    (h_v371 : v371 (ix1 l) = w 12)
    (h_v376 : v376 (ix1 l) = w 13)
    (h_v381 : v381 (ix1 l) = w 14)
    (h_v386 : v386 (ix1 l) = w 15)
    (h_v391 : v391 (ix1 l) = w 16)
    (h_v396 : v396 (ix1 l) = w 17)
    (h_v401 : v401 (ix1 l) = w 18)
    (h_v406 : v406 (ix1 l) = w 19)
    (h_v411 : v411 (ix1 l) = w 20)
    (h_v416 : v416 (ix1 l) = w 21)
    (h_v421 : v421 (ix1 l) = w 22)
    (h_v426 : v426 (ix1 l) = w 23)
    (h_v431 : v431 (ix1 l) = w 24)
    (h_v436 : v436 (ix1 l) = w 25)
    (h_v441 : v441 (ix1 l) = w 26)
    (h_v446 : v446 (ix1 l) = w 27)
    (h_v451 : v451 (ix1 l) = w 28)
    (h_v456 : v456 (ix1 l) = w 29)
    (h_v460 : v460 (ix3 (0 : Fin 1) (0 : Fin 1) l) = w 30)
    (h_v465 : v465 (ix3 (0 : Fin 1) (0 : Fin 1) l) = w 31) :
    k0_pay61 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = tree32 w := by
  unfold k0_pay61
  refine (cast_116 _ l).trans ?_
  exact congrArg₂ FloatOps.addf (congrArg₂ FloatOps.addf (congrArg₂ FloatOps.addf (congrArg₂ FloatOps.addf (congrArg₂ FloatOps.addf (h_v311) (h_v316)) (congrArg₂ FloatOps.addf (h_v321) (h_v326))) (congrArg₂ FloatOps.addf (congrArg₂ FloatOps.addf (h_v331) (h_v336)) (congrArg₂ FloatOps.addf (h_v341) (h_v346)))) (congrArg₂ FloatOps.addf (congrArg₂ FloatOps.addf (congrArg₂ FloatOps.addf (h_v351) (h_v356)) (congrArg₂ FloatOps.addf (h_v361) (h_v366))) (congrArg₂ FloatOps.addf (congrArg₂ FloatOps.addf (h_v371) (h_v376)) (congrArg₂ FloatOps.addf (h_v381) (h_v386))))) (congrArg₂ FloatOps.addf (congrArg₂ FloatOps.addf (congrArg₂ FloatOps.addf (congrArg₂ FloatOps.addf (h_v391) (h_v396)) (congrArg₂ FloatOps.addf (h_v401) (h_v406))) (congrArg₂ FloatOps.addf (congrArg₂ FloatOps.addf (h_v411) (h_v416)) (congrArg₂ FloatOps.addf (h_v421) (h_v426)))) (congrArg₂ FloatOps.addf (congrArg₂ FloatOps.addf (congrArg₂ FloatOps.addf (h_v431) (h_v436)) (congrArg₂ FloatOps.addf (h_v441) (h_v446))) (congrArg₂ FloatOps.addf (congrArg₂ FloatOps.addf (h_v451) (h_v456)) (congrArg₂ FloatOps.addf ((cast_16 v460 l).trans h_v460) ((cast_16 v465 l).trans h_v465)))))

theorem k0_pay62_lane (v506 : Vec F S1x1x16 .f32) (l : Fin 16) :
    k0_pay62 v506 (ix1 l) = v506 (ix3 (0 : Fin 1) (0 : Fin 1) l) := by
  unfold k0_pay62
  exact cast_16 v506 l

theorem k0_pay63_lane (v511 : Vec F S1x1x16 .f32) (l : Fin 16) :
    k0_pay63 v511 (ix1 l) = v511 (ix3 (0 : Fin 1) (0 : Fin 1) l) := by
  unfold k0_pay63
  exact cast_16 v511 l

theorem k0_pay64_lane (v516 : Vec F S1x1x16 .f32) (l : Fin 16) :
    k0_pay64 v516 (ix1 l) = v516 (ix3 (0 : Fin 1) (0 : Fin 1) l) := by
  unfold k0_pay64
  exact cast_16 v516 l

theorem k0_pay65_lane (v521 : Vec F S1x1x16 .f32) (l : Fin 16) :
    k0_pay65 v521 (ix1 l) = v521 (ix3 (0 : Fin 1) (0 : Fin 1) l) := by
  unfold k0_pay65
  exact cast_16 v521 l

theorem k0_pay66_lane (v526 : Vec F S1x1x16 .f32) (l : Fin 16) :
    k0_pay66 v526 (ix1 l) = v526 (ix3 (0 : Fin 1) (0 : Fin 1) l) := by
  unfold k0_pay66
  exact cast_16 v526 l

theorem k0_pay67_lane (v531 : Vec F S1x1x16 .f32) (l : Fin 16) :
    k0_pay67 v531 (ix1 l) = v531 (ix3 (0 : Fin 1) (0 : Fin 1) l) := by
  unfold k0_pay67
  exact cast_16 v531 l

theorem k0_pay68_lane (v536 : Vec F S1x1x16 .f32) (l : Fin 16) :
    k0_pay68 v536 (ix1 l) = v536 (ix3 (0 : Fin 1) (0 : Fin 1) l) := by
  unfold k0_pay68
  exact cast_16 v536 l

theorem k0_pay69_lane (v541 : Vec F S1x1x16 .f32) (l : Fin 16) :
    k0_pay69 v541 (ix1 l) = v541 (ix3 (0 : Fin 1) (0 : Fin 1) l) := by
  unfold k0_pay69
  exact cast_16 v541 l

theorem k0_pay70_lane (v546 : Vec F S1x1x16 .f32) (l : Fin 16) :
    k0_pay70 v546 (ix1 l) = v546 (ix3 (0 : Fin 1) (0 : Fin 1) l) := by
  unfold k0_pay70
  exact cast_16 v546 l

theorem k0_pay71_lane (v551 : Vec F S1x1x16 .f32) (l : Fin 16) :
    k0_pay71 v551 (ix1 l) = v551 (ix3 (0 : Fin 1) (0 : Fin 1) l) := by
  unfold k0_pay71
  exact cast_16 v551 l

theorem k0_pay72_lane (v556 : Vec F S1x1x16 .f32) (l : Fin 16) :
    k0_pay72 v556 (ix1 l) = v556 (ix3 (0 : Fin 1) (0 : Fin 1) l) := by
  unfold k0_pay72
  exact cast_16 v556 l

theorem k0_pay73_lane (v561 : Vec F S1x1x16 .f32) (l : Fin 16) :
    k0_pay73 v561 (ix1 l) = v561 (ix3 (0 : Fin 1) (0 : Fin 1) l) := by
  unfold k0_pay73
  exact cast_16 v561 l

theorem k0_pay74_lane (v566 : Vec F S1x1x16 .f32) (l : Fin 16) :
    k0_pay74 v566 (ix1 l) = v566 (ix3 (0 : Fin 1) (0 : Fin 1) l) := by
  unfold k0_pay74
  exact cast_16 v566 l

theorem k0_pay75_lane (v571 : Vec F S1x1x16 .f32) (l : Fin 16) :
    k0_pay75 v571 (ix1 l) = v571 (ix3 (0 : Fin 1) (0 : Fin 1) l) := by
  unfold k0_pay75
  exact cast_16 v571 l

theorem k0_pay76_lane (v576 : Vec F S1x1x16 .f32) (l : Fin 16) :
    k0_pay76 v576 (ix1 l) = v576 (ix3 (0 : Fin 1) (0 : Fin 1) l) := by
  unfold k0_pay76
  exact cast_16 v576 l

theorem k0_pay77_lane (v581 : Vec F S1x1x16 .f32) (l : Fin 16) :
    k0_pay77 v581 (ix1 l) = v581 (ix3 (0 : Fin 1) (0 : Fin 1) l) := by
  unfold k0_pay77
  exact cast_16 v581 l

theorem k0_pay78_lane (v586 : Vec F S1x1x16 .f32) (l : Fin 16) :
    k0_pay78 v586 (ix1 l) = v586 (ix3 (0 : Fin 1) (0 : Fin 1) l) := by
  unfold k0_pay78
  exact cast_16 v586 l

theorem k0_pay79_lane (v591 : Vec F S1x1x16 .f32) (l : Fin 16) :
    k0_pay79 v591 (ix1 l) = v591 (ix3 (0 : Fin 1) (0 : Fin 1) l) := by
  unfold k0_pay79
  exact cast_16 v591 l

theorem k0_pay80_lane (v596 : Vec F S1x1x16 .f32) (l : Fin 16) :
    k0_pay80 v596 (ix1 l) = v596 (ix3 (0 : Fin 1) (0 : Fin 1) l) := by
  unfold k0_pay80
  exact cast_16 v596 l

theorem k0_pay81_lane (v601 : Vec F S1x1x16 .f32) (l : Fin 16) :
    k0_pay81 v601 (ix1 l) = v601 (ix3 (0 : Fin 1) (0 : Fin 1) l) := by
  unfold k0_pay81
  exact cast_16 v601 l

theorem k0_pay82_lane (v606 : Vec F S1x1x16 .f32) (l : Fin 16) :
    k0_pay82 v606 (ix1 l) = v606 (ix3 (0 : Fin 1) (0 : Fin 1) l) := by
  unfold k0_pay82
  exact cast_16 v606 l

theorem k0_pay83_lane (v611 : Vec F S1x1x16 .f32) (l : Fin 16) :
    k0_pay83 v611 (ix1 l) = v611 (ix3 (0 : Fin 1) (0 : Fin 1) l) := by
  unfold k0_pay83
  exact cast_16 v611 l

theorem k0_pay84_lane (v616 : Vec F S1x1x16 .f32) (l : Fin 16) :
    k0_pay84 v616 (ix1 l) = v616 (ix3 (0 : Fin 1) (0 : Fin 1) l) := by
  unfold k0_pay84
  exact cast_16 v616 l

theorem k0_pay85_lane (v621 : Vec F S1x1x16 .f32) (l : Fin 16) :
    k0_pay85 v621 (ix1 l) = v621 (ix3 (0 : Fin 1) (0 : Fin 1) l) := by
  unfold k0_pay85
  exact cast_16 v621 l

theorem k0_pay86_lane (v626 : Vec F S1x1x16 .f32) (l : Fin 16) :
    k0_pay86 v626 (ix1 l) = v626 (ix3 (0 : Fin 1) (0 : Fin 1) l) := by
  unfold k0_pay86
  exact cast_16 v626 l

theorem k0_pay87_lane (v631 : Vec F S1x1x16 .f32) (l : Fin 16) :
    k0_pay87 v631 (ix1 l) = v631 (ix3 (0 : Fin 1) (0 : Fin 1) l) := by
  unfold k0_pay87
  exact cast_16 v631 l

theorem k0_pay88_lane (v636 : Vec F S1x1x16 .f32) (l : Fin 16) :
    k0_pay88 v636 (ix1 l) = v636 (ix3 (0 : Fin 1) (0 : Fin 1) l) := by
  unfold k0_pay88
  exact cast_16 v636 l

theorem k0_pay89_lane (v641 : Vec F S1x1x16 .f32) (l : Fin 16) :
    k0_pay89 v641 (ix1 l) = v641 (ix3 (0 : Fin 1) (0 : Fin 1) l) := by
  unfold k0_pay89
  exact cast_16 v641 l

theorem k0_pay90_lane (v646 : Vec F S1x1x16 .f32) (l : Fin 16) :
    k0_pay90 v646 (ix1 l) = v646 (ix3 (0 : Fin 1) (0 : Fin 1) l) := by
  unfold k0_pay90
  exact cast_16 v646 l

theorem k0_pay91_lane (v651 : Vec F S1x1x16 .f32) (l : Fin 16) :
    k0_pay91 v651 (ix1 l) = v651 (ix3 (0 : Fin 1) (0 : Fin 1) l) := by
  unfold k0_pay91
  exact cast_16 v651 l

theorem k0_pay92_lane (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (l : Fin 16) :
    k0_pay92 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = FloatOps.addf (FloatOps.addf (FloatOps.addf (FloatOps.addf (FloatOps.addf (v507 (ix1 l)) (v512 (ix1 l))) (FloatOps.addf (v517 (ix1 l)) (v522 (ix1 l)))) (FloatOps.addf (FloatOps.addf (v527 (ix1 l)) (v532 (ix1 l))) (FloatOps.addf (v537 (ix1 l)) (v542 (ix1 l))))) (FloatOps.addf (FloatOps.addf (FloatOps.addf (v547 (ix1 l)) (v552 (ix1 l))) (FloatOps.addf (v557 (ix1 l)) (v562 (ix1 l)))) (FloatOps.addf (FloatOps.addf (v567 (ix1 l)) (v572 (ix1 l))) (FloatOps.addf (v577 (ix1 l)) (v582 (ix1 l)))))) (FloatOps.addf (FloatOps.addf (FloatOps.addf (FloatOps.addf (v587 (ix1 l)) (v592 (ix1 l))) (FloatOps.addf (v597 (ix1 l)) (v602 (ix1 l)))) (FloatOps.addf (FloatOps.addf (v607 (ix1 l)) (v612 (ix1 l))) (FloatOps.addf (v617 (ix1 l)) (v622 (ix1 l))))) (FloatOps.addf (FloatOps.addf (FloatOps.addf (v627 (ix1 l)) (v632 (ix1 l))) (FloatOps.addf (v637 (ix1 l)) (v642 (ix1 l)))) (FloatOps.addf (FloatOps.addf (v647 (ix1 l)) (v652 (ix1 l))) (FloatOps.addf (v656 (ix3 (0 : Fin 1) (0 : Fin 1) l)) (v661 (ix3 (0 : Fin 1) (0 : Fin 1) l)))))) := by
  unfold k0_pay92
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v656 l) (cast_16 v661 l)))))

theorem k0_pay92_tree (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (w : Fin 32 → F .f32) (l : Fin 16)
    (h_v507 : v507 (ix1 l) = w 0)
    (h_v512 : v512 (ix1 l) = w 1)
    (h_v517 : v517 (ix1 l) = w 2)
    (h_v522 : v522 (ix1 l) = w 3)
    (h_v527 : v527 (ix1 l) = w 4)
    (h_v532 : v532 (ix1 l) = w 5)
    (h_v537 : v537 (ix1 l) = w 6)
    (h_v542 : v542 (ix1 l) = w 7)
    (h_v547 : v547 (ix1 l) = w 8)
    (h_v552 : v552 (ix1 l) = w 9)
    (h_v557 : v557 (ix1 l) = w 10)
    (h_v562 : v562 (ix1 l) = w 11)
    (h_v567 : v567 (ix1 l) = w 12)
    (h_v572 : v572 (ix1 l) = w 13)
    (h_v577 : v577 (ix1 l) = w 14)
    (h_v582 : v582 (ix1 l) = w 15)
    (h_v587 : v587 (ix1 l) = w 16)
    (h_v592 : v592 (ix1 l) = w 17)
    (h_v597 : v597 (ix1 l) = w 18)
    (h_v602 : v602 (ix1 l) = w 19)
    (h_v607 : v607 (ix1 l) = w 20)
    (h_v612 : v612 (ix1 l) = w 21)
    (h_v617 : v617 (ix1 l) = w 22)
    (h_v622 : v622 (ix1 l) = w 23)
    (h_v627 : v627 (ix1 l) = w 24)
    (h_v632 : v632 (ix1 l) = w 25)
    (h_v637 : v637 (ix1 l) = w 26)
    (h_v642 : v642 (ix1 l) = w 27)
    (h_v647 : v647 (ix1 l) = w 28)
    (h_v652 : v652 (ix1 l) = w 29)
    (h_v656 : v656 (ix3 (0 : Fin 1) (0 : Fin 1) l) = w 30)
    (h_v661 : v661 (ix3 (0 : Fin 1) (0 : Fin 1) l) = w 31) :
    k0_pay92 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = tree32 w := by
  unfold k0_pay92
  refine (cast_116 _ l).trans ?_
  exact congrArg₂ FloatOps.addf (congrArg₂ FloatOps.addf (congrArg₂ FloatOps.addf (congrArg₂ FloatOps.addf (congrArg₂ FloatOps.addf (h_v507) (h_v512)) (congrArg₂ FloatOps.addf (h_v517) (h_v522))) (congrArg₂ FloatOps.addf (congrArg₂ FloatOps.addf (h_v527) (h_v532)) (congrArg₂ FloatOps.addf (h_v537) (h_v542)))) (congrArg₂ FloatOps.addf (congrArg₂ FloatOps.addf (congrArg₂ FloatOps.addf (h_v547) (h_v552)) (congrArg₂ FloatOps.addf (h_v557) (h_v562))) (congrArg₂ FloatOps.addf (congrArg₂ FloatOps.addf (h_v567) (h_v572)) (congrArg₂ FloatOps.addf (h_v577) (h_v582))))) (congrArg₂ FloatOps.addf (congrArg₂ FloatOps.addf (congrArg₂ FloatOps.addf (congrArg₂ FloatOps.addf (h_v587) (h_v592)) (congrArg₂ FloatOps.addf (h_v597) (h_v602))) (congrArg₂ FloatOps.addf (congrArg₂ FloatOps.addf (h_v607) (h_v612)) (congrArg₂ FloatOps.addf (h_v617) (h_v622)))) (congrArg₂ FloatOps.addf (congrArg₂ FloatOps.addf (congrArg₂ FloatOps.addf (h_v627) (h_v632)) (congrArg₂ FloatOps.addf (h_v637) (h_v642))) (congrArg₂ FloatOps.addf (congrArg₂ FloatOps.addf (h_v647) (h_v652)) (congrArg₂ FloatOps.addf ((cast_16 v656 l).trans h_v656) ((cast_16 v661 l).trans h_v661)))))

theorem k0_pay93_lane (v702 : Vec F S1x1x16 .f32) (l : Fin 16) :
    k0_pay93 v702 (ix1 l) = v702 (ix3 (0 : Fin 1) (0 : Fin 1) l) := by
  unfold k0_pay93
  exact cast_16 v702 l

theorem k0_pay94_lane (v707 : Vec F S1x1x16 .f32) (l : Fin 16) :
    k0_pay94 v707 (ix1 l) = v707 (ix3 (0 : Fin 1) (0 : Fin 1) l) := by
  unfold k0_pay94
  exact cast_16 v707 l

theorem k0_pay95_lane (v712 : Vec F S1x1x16 .f32) (l : Fin 16) :
    k0_pay95 v712 (ix1 l) = v712 (ix3 (0 : Fin 1) (0 : Fin 1) l) := by
  unfold k0_pay95
  exact cast_16 v712 l

theorem k0_pay96_lane (v717 : Vec F S1x1x16 .f32) (l : Fin 16) :
    k0_pay96 v717 (ix1 l) = v717 (ix3 (0 : Fin 1) (0 : Fin 1) l) := by
  unfold k0_pay96
  exact cast_16 v717 l

theorem k0_pay97_lane (v722 : Vec F S1x1x16 .f32) (l : Fin 16) :
    k0_pay97 v722 (ix1 l) = v722 (ix3 (0 : Fin 1) (0 : Fin 1) l) := by
  unfold k0_pay97
  exact cast_16 v722 l

theorem k0_pay98_lane (v727 : Vec F S1x1x16 .f32) (l : Fin 16) :
    k0_pay98 v727 (ix1 l) = v727 (ix3 (0 : Fin 1) (0 : Fin 1) l) := by
  unfold k0_pay98
  exact cast_16 v727 l

theorem k0_pay99_lane (v732 : Vec F S1x1x16 .f32) (l : Fin 16) :
    k0_pay99 v732 (ix1 l) = v732 (ix3 (0 : Fin 1) (0 : Fin 1) l) := by
  unfold k0_pay99
  exact cast_16 v732 l

theorem k0_pay100_lane (v737 : Vec F S1x1x16 .f32) (l : Fin 16) :
    k0_pay100 v737 (ix1 l) = v737 (ix3 (0 : Fin 1) (0 : Fin 1) l) := by
  unfold k0_pay100
  exact cast_16 v737 l

theorem k0_pay101_lane (v742 : Vec F S1x1x16 .f32) (l : Fin 16) :
    k0_pay101 v742 (ix1 l) = v742 (ix3 (0 : Fin 1) (0 : Fin 1) l) := by
  unfold k0_pay101
  exact cast_16 v742 l

theorem k0_pay102_lane (v747 : Vec F S1x1x16 .f32) (l : Fin 16) :
    k0_pay102 v747 (ix1 l) = v747 (ix3 (0 : Fin 1) (0 : Fin 1) l) := by
  unfold k0_pay102
  exact cast_16 v747 l

theorem k0_pay103_lane (v752 : Vec F S1x1x16 .f32) (l : Fin 16) :
    k0_pay103 v752 (ix1 l) = v752 (ix3 (0 : Fin 1) (0 : Fin 1) l) := by
  unfold k0_pay103
  exact cast_16 v752 l

theorem k0_pay104_lane (v757 : Vec F S1x1x16 .f32) (l : Fin 16) :
    k0_pay104 v757 (ix1 l) = v757 (ix3 (0 : Fin 1) (0 : Fin 1) l) := by
  unfold k0_pay104
  exact cast_16 v757 l

theorem k0_pay105_lane (v762 : Vec F S1x1x16 .f32) (l : Fin 16) :
    k0_pay105 v762 (ix1 l) = v762 (ix3 (0 : Fin 1) (0 : Fin 1) l) := by
  unfold k0_pay105
  exact cast_16 v762 l

theorem k0_pay106_lane (v767 : Vec F S1x1x16 .f32) (l : Fin 16) :
    k0_pay106 v767 (ix1 l) = v767 (ix3 (0 : Fin 1) (0 : Fin 1) l) := by
  unfold k0_pay106
  exact cast_16 v767 l

theorem k0_pay107_lane (v772 : Vec F S1x1x16 .f32) (l : Fin 16) :
    k0_pay107 v772 (ix1 l) = v772 (ix3 (0 : Fin 1) (0 : Fin 1) l) := by
  unfold k0_pay107
  exact cast_16 v772 l

theorem k0_pay108_lane (v777 : Vec F S1x1x16 .f32) (l : Fin 16) :
    k0_pay108 v777 (ix1 l) = v777 (ix3 (0 : Fin 1) (0 : Fin 1) l) := by
  unfold k0_pay108
  exact cast_16 v777 l

theorem k0_pay109_lane (v782 : Vec F S1x1x16 .f32) (l : Fin 16) :
    k0_pay109 v782 (ix1 l) = v782 (ix3 (0 : Fin 1) (0 : Fin 1) l) := by
  unfold k0_pay109
  exact cast_16 v782 l

theorem k0_pay110_lane (v787 : Vec F S1x1x16 .f32) (l : Fin 16) :
    k0_pay110 v787 (ix1 l) = v787 (ix3 (0 : Fin 1) (0 : Fin 1) l) := by
  unfold k0_pay110
  exact cast_16 v787 l

theorem k0_pay111_lane (v792 : Vec F S1x1x16 .f32) (l : Fin 16) :
    k0_pay111 v792 (ix1 l) = v792 (ix3 (0 : Fin 1) (0 : Fin 1) l) := by
  unfold k0_pay111
  exact cast_16 v792 l

theorem k0_pay112_lane (v797 : Vec F S1x1x16 .f32) (l : Fin 16) :
    k0_pay112 v797 (ix1 l) = v797 (ix3 (0 : Fin 1) (0 : Fin 1) l) := by
  unfold k0_pay112
  exact cast_16 v797 l

theorem k0_pay113_lane (v802 : Vec F S1x1x16 .f32) (l : Fin 16) :
    k0_pay113 v802 (ix1 l) = v802 (ix3 (0 : Fin 1) (0 : Fin 1) l) := by
  unfold k0_pay113
  exact cast_16 v802 l

theorem k0_pay114_lane (v807 : Vec F S1x1x16 .f32) (l : Fin 16) :
    k0_pay114 v807 (ix1 l) = v807 (ix3 (0 : Fin 1) (0 : Fin 1) l) := by
  unfold k0_pay114
  exact cast_16 v807 l

theorem k0_pay115_lane (v812 : Vec F S1x1x16 .f32) (l : Fin 16) :
    k0_pay115 v812 (ix1 l) = v812 (ix3 (0 : Fin 1) (0 : Fin 1) l) := by
  unfold k0_pay115
  exact cast_16 v812 l

theorem k0_pay116_lane (v817 : Vec F S1x1x16 .f32) (l : Fin 16) :
    k0_pay116 v817 (ix1 l) = v817 (ix3 (0 : Fin 1) (0 : Fin 1) l) := by
  unfold k0_pay116
  exact cast_16 v817 l

theorem k0_pay117_lane (v822 : Vec F S1x1x16 .f32) (l : Fin 16) :
    k0_pay117 v822 (ix1 l) = v822 (ix3 (0 : Fin 1) (0 : Fin 1) l) := by
  unfold k0_pay117
  exact cast_16 v822 l

theorem k0_pay118_lane (v827 : Vec F S1x1x16 .f32) (l : Fin 16) :
    k0_pay118 v827 (ix1 l) = v827 (ix3 (0 : Fin 1) (0 : Fin 1) l) := by
  unfold k0_pay118
  exact cast_16 v827 l

theorem k0_pay119_lane (v832 : Vec F S1x1x16 .f32) (l : Fin 16) :
    k0_pay119 v832 (ix1 l) = v832 (ix3 (0 : Fin 1) (0 : Fin 1) l) := by
  unfold k0_pay119
  exact cast_16 v832 l

theorem k0_pay120_lane (v837 : Vec F S1x1x16 .f32) (l : Fin 16) :
    k0_pay120 v837 (ix1 l) = v837 (ix3 (0 : Fin 1) (0 : Fin 1) l) := by
  unfold k0_pay120
  exact cast_16 v837 l

theorem k0_pay121_lane (v842 : Vec F S1x1x16 .f32) (l : Fin 16) :
    k0_pay121 v842 (ix1 l) = v842 (ix3 (0 : Fin 1) (0 : Fin 1) l) := by
  unfold k0_pay121
  exact cast_16 v842 l

theorem k0_pay122_lane (v847 : Vec F S1x1x16 .f32) (l : Fin 16) :
    k0_pay122 v847 (ix1 l) = v847 (ix3 (0 : Fin 1) (0 : Fin 1) l) := by
  unfold k0_pay122
  exact cast_16 v847 l

theorem k0_pay123_lane (v852 : Vec F S1x1x16 .f32) (l : Fin 16) :
    k0_pay123 v852 (ix1 l) = v852 (ix3 (0 : Fin 1) (0 : Fin 1) l) := by
  unfold k0_pay123
  exact cast_16 v852 l

theorem k0_pay124_lane (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (l : Fin 16) :
    k0_pay124 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = FloatOps.addf (FloatOps.addf (FloatOps.addf (FloatOps.addf (FloatOps.addf (v703 (ix1 l)) (v708 (ix1 l))) (FloatOps.addf (v713 (ix1 l)) (v718 (ix1 l)))) (FloatOps.addf (FloatOps.addf (v723 (ix1 l)) (v728 (ix1 l))) (FloatOps.addf (v733 (ix1 l)) (v738 (ix1 l))))) (FloatOps.addf (FloatOps.addf (FloatOps.addf (v743 (ix1 l)) (v748 (ix1 l))) (FloatOps.addf (v753 (ix1 l)) (v758 (ix1 l)))) (FloatOps.addf (FloatOps.addf (v763 (ix1 l)) (v768 (ix1 l))) (FloatOps.addf (v773 (ix1 l)) (v778 (ix1 l)))))) (FloatOps.addf (FloatOps.addf (FloatOps.addf (FloatOps.addf (v783 (ix1 l)) (v788 (ix1 l))) (FloatOps.addf (v793 (ix1 l)) (v798 (ix1 l)))) (FloatOps.addf (FloatOps.addf (v803 (ix1 l)) (v808 (ix1 l))) (FloatOps.addf (v813 (ix1 l)) (v818 (ix1 l))))) (FloatOps.addf (FloatOps.addf (FloatOps.addf (v823 (ix1 l)) (v828 (ix1 l))) (FloatOps.addf (v833 (ix1 l)) (v838 (ix1 l)))) (FloatOps.addf (FloatOps.addf (v843 (ix1 l)) (v848 (ix1 l))) (FloatOps.addf (v853 (ix1 l)) (v857 (ix3 (0 : Fin 1) (0 : Fin 1) l)))))) := by
  unfold k0_pay124
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (cast_16 v857 l)))))

theorem k0_pay124_tree (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (w : Fin 32 → F .f32) (l : Fin 16)
    (h_v703 : v703 (ix1 l) = w 0)
    (h_v708 : v708 (ix1 l) = w 1)
    (h_v713 : v713 (ix1 l) = w 2)
    (h_v718 : v718 (ix1 l) = w 3)
    (h_v723 : v723 (ix1 l) = w 4)
    (h_v728 : v728 (ix1 l) = w 5)
    (h_v733 : v733 (ix1 l) = w 6)
    (h_v738 : v738 (ix1 l) = w 7)
    (h_v743 : v743 (ix1 l) = w 8)
    (h_v748 : v748 (ix1 l) = w 9)
    (h_v753 : v753 (ix1 l) = w 10)
    (h_v758 : v758 (ix1 l) = w 11)
    (h_v763 : v763 (ix1 l) = w 12)
    (h_v768 : v768 (ix1 l) = w 13)
    (h_v773 : v773 (ix1 l) = w 14)
    (h_v778 : v778 (ix1 l) = w 15)
    (h_v783 : v783 (ix1 l) = w 16)
    (h_v788 : v788 (ix1 l) = w 17)
    (h_v793 : v793 (ix1 l) = w 18)
    (h_v798 : v798 (ix1 l) = w 19)
    (h_v803 : v803 (ix1 l) = w 20)
    (h_v808 : v808 (ix1 l) = w 21)
    (h_v813 : v813 (ix1 l) = w 22)
    (h_v818 : v818 (ix1 l) = w 23)
    (h_v823 : v823 (ix1 l) = w 24)
    (h_v828 : v828 (ix1 l) = w 25)
    (h_v833 : v833 (ix1 l) = w 26)
    (h_v838 : v838 (ix1 l) = w 27)
    (h_v843 : v843 (ix1 l) = w 28)
    (h_v848 : v848 (ix1 l) = w 29)
    (h_v853 : v853 (ix1 l) = w 30)
    (h_v857 : v857 (ix3 (0 : Fin 1) (0 : Fin 1) l) = w 31) :
    k0_pay124 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = tree32 w := by
  unfold k0_pay124
  refine (cast_116 _ l).trans ?_
  exact congrArg₂ FloatOps.addf (congrArg₂ FloatOps.addf (congrArg₂ FloatOps.addf (congrArg₂ FloatOps.addf (congrArg₂ FloatOps.addf (h_v703) (h_v708)) (congrArg₂ FloatOps.addf (h_v713) (h_v718))) (congrArg₂ FloatOps.addf (congrArg₂ FloatOps.addf (h_v723) (h_v728)) (congrArg₂ FloatOps.addf (h_v733) (h_v738)))) (congrArg₂ FloatOps.addf (congrArg₂ FloatOps.addf (congrArg₂ FloatOps.addf (h_v743) (h_v748)) (congrArg₂ FloatOps.addf (h_v753) (h_v758))) (congrArg₂ FloatOps.addf (congrArg₂ FloatOps.addf (h_v763) (h_v768)) (congrArg₂ FloatOps.addf (h_v773) (h_v778))))) (congrArg₂ FloatOps.addf (congrArg₂ FloatOps.addf (congrArg₂ FloatOps.addf (congrArg₂ FloatOps.addf (h_v783) (h_v788)) (congrArg₂ FloatOps.addf (h_v793) (h_v798))) (congrArg₂ FloatOps.addf (congrArg₂ FloatOps.addf (h_v803) (h_v808)) (congrArg₂ FloatOps.addf (h_v813) (h_v818)))) (congrArg₂ FloatOps.addf (congrArg₂ FloatOps.addf (congrArg₂ FloatOps.addf (h_v823) (h_v828)) (congrArg₂ FloatOps.addf (h_v833) (h_v838))) (congrArg₂ FloatOps.addf (congrArg₂ FloatOps.addf (h_v843) (h_v848)) (congrArg₂ FloatOps.addf (h_v853) ((cast_16 v857 l).trans h_v857)))))

theorem k0_pay125_lane (v898 : Vec F S1x1x16 .f32) (l : Fin 16) :
    k0_pay125 v898 (ix1 l) = v898 (ix3 (0 : Fin 1) (0 : Fin 1) l) := by
  unfold k0_pay125
  exact cast_16 v898 l

theorem k0_pay126_lane (v903 : Vec F S1x1x16 .f32) (l : Fin 16) :
    k0_pay126 v903 (ix1 l) = v903 (ix3 (0 : Fin 1) (0 : Fin 1) l) := by
  unfold k0_pay126
  exact cast_16 v903 l

theorem k0_pay127_lane (v908 : Vec F S1x1x16 .f32) (l : Fin 16) :
    k0_pay127 v908 (ix1 l) = v908 (ix3 (0 : Fin 1) (0 : Fin 1) l) := by
  unfold k0_pay127
  exact cast_16 v908 l

theorem k0_pay128_lane (v913 : Vec F S1x1x16 .f32) (l : Fin 16) :
    k0_pay128 v913 (ix1 l) = v913 (ix3 (0 : Fin 1) (0 : Fin 1) l) := by
  unfold k0_pay128
  exact cast_16 v913 l

theorem k0_pay129_lane (v918 : Vec F S1x1x16 .f32) (l : Fin 16) :
    k0_pay129 v918 (ix1 l) = v918 (ix3 (0 : Fin 1) (0 : Fin 1) l) := by
  unfold k0_pay129
  exact cast_16 v918 l

theorem k0_pay130_lane (v923 : Vec F S1x1x16 .f32) (l : Fin 16) :
    k0_pay130 v923 (ix1 l) = v923 (ix3 (0 : Fin 1) (0 : Fin 1) l) := by
  unfold k0_pay130
  exact cast_16 v923 l

theorem k0_pay131_lane (v928 : Vec F S1x1x16 .f32) (l : Fin 16) :
    k0_pay131 v928 (ix1 l) = v928 (ix3 (0 : Fin 1) (0 : Fin 1) l) := by
  unfold k0_pay131
  exact cast_16 v928 l

theorem k0_pay132_lane (v933 : Vec F S1x1x16 .f32) (l : Fin 16) :
    k0_pay132 v933 (ix1 l) = v933 (ix3 (0 : Fin 1) (0 : Fin 1) l) := by
  unfold k0_pay132
  exact cast_16 v933 l

theorem k0_pay133_lane (v938 : Vec F S1x1x16 .f32) (l : Fin 16) :
    k0_pay133 v938 (ix1 l) = v938 (ix3 (0 : Fin 1) (0 : Fin 1) l) := by
  unfold k0_pay133
  exact cast_16 v938 l

theorem k0_pay134_lane (v943 : Vec F S1x1x16 .f32) (l : Fin 16) :
    k0_pay134 v943 (ix1 l) = v943 (ix3 (0 : Fin 1) (0 : Fin 1) l) := by
  unfold k0_pay134
  exact cast_16 v943 l

theorem k0_pay135_lane (v948 : Vec F S1x1x16 .f32) (l : Fin 16) :
    k0_pay135 v948 (ix1 l) = v948 (ix3 (0 : Fin 1) (0 : Fin 1) l) := by
  unfold k0_pay135
  exact cast_16 v948 l

theorem k0_pay136_lane (v953 : Vec F S1x1x16 .f32) (l : Fin 16) :
    k0_pay136 v953 (ix1 l) = v953 (ix3 (0 : Fin 1) (0 : Fin 1) l) := by
  unfold k0_pay136
  exact cast_16 v953 l

theorem k0_pay137_lane (v958 : Vec F S1x1x16 .f32) (l : Fin 16) :
    k0_pay137 v958 (ix1 l) = v958 (ix3 (0 : Fin 1) (0 : Fin 1) l) := by
  unfold k0_pay137
  exact cast_16 v958 l

theorem k0_pay138_lane (v963 : Vec F S1x1x16 .f32) (l : Fin 16) :
    k0_pay138 v963 (ix1 l) = v963 (ix3 (0 : Fin 1) (0 : Fin 1) l) := by
  unfold k0_pay138
  exact cast_16 v963 l

theorem k0_pay139_lane (v968 : Vec F S1x1x16 .f32) (l : Fin 16) :
    k0_pay139 v968 (ix1 l) = v968 (ix3 (0 : Fin 1) (0 : Fin 1) l) := by
  unfold k0_pay139
  exact cast_16 v968 l

theorem k0_pay140_lane (v973 : Vec F S1x1x16 .f32) (l : Fin 16) :
    k0_pay140 v973 (ix1 l) = v973 (ix3 (0 : Fin 1) (0 : Fin 1) l) := by
  unfold k0_pay140
  exact cast_16 v973 l

theorem k0_pay141_lane (v978 : Vec F S1x1x16 .f32) (l : Fin 16) :
    k0_pay141 v978 (ix1 l) = v978 (ix3 (0 : Fin 1) (0 : Fin 1) l) := by
  unfold k0_pay141
  exact cast_16 v978 l

theorem k0_pay142_lane (v983 : Vec F S1x1x16 .f32) (l : Fin 16) :
    k0_pay142 v983 (ix1 l) = v983 (ix3 (0 : Fin 1) (0 : Fin 1) l) := by
  unfold k0_pay142
  exact cast_16 v983 l

theorem k0_pay143_lane (v988 : Vec F S1x1x16 .f32) (l : Fin 16) :
    k0_pay143 v988 (ix1 l) = v988 (ix3 (0 : Fin 1) (0 : Fin 1) l) := by
  unfold k0_pay143
  exact cast_16 v988 l

theorem k0_pay144_lane (v993 : Vec F S1x1x16 .f32) (l : Fin 16) :
    k0_pay144 v993 (ix1 l) = v993 (ix3 (0 : Fin 1) (0 : Fin 1) l) := by
  unfold k0_pay144
  exact cast_16 v993 l

theorem k0_pay145_lane (v998 : Vec F S1x1x16 .f32) (l : Fin 16) :
    k0_pay145 v998 (ix1 l) = v998 (ix3 (0 : Fin 1) (0 : Fin 1) l) := by
  unfold k0_pay145
  exact cast_16 v998 l

theorem k0_pay146_lane (v1003 : Vec F S1x1x16 .f32) (l : Fin 16) :
    k0_pay146 v1003 (ix1 l) = v1003 (ix3 (0 : Fin 1) (0 : Fin 1) l) := by
  unfold k0_pay146
  exact cast_16 v1003 l

theorem k0_pay147_lane (v1008 : Vec F S1x1x16 .f32) (l : Fin 16) :
    k0_pay147 v1008 (ix1 l) = v1008 (ix3 (0 : Fin 1) (0 : Fin 1) l) := by
  unfold k0_pay147
  exact cast_16 v1008 l

theorem k0_pay148_lane (v1013 : Vec F S1x1x16 .f32) (l : Fin 16) :
    k0_pay148 v1013 (ix1 l) = v1013 (ix3 (0 : Fin 1) (0 : Fin 1) l) := by
  unfold k0_pay148
  exact cast_16 v1013 l

theorem k0_pay149_lane (v1018 : Vec F S1x1x16 .f32) (l : Fin 16) :
    k0_pay149 v1018 (ix1 l) = v1018 (ix3 (0 : Fin 1) (0 : Fin 1) l) := by
  unfold k0_pay149
  exact cast_16 v1018 l

theorem k0_pay150_lane (v1023 : Vec F S1x1x16 .f32) (l : Fin 16) :
    k0_pay150 v1023 (ix1 l) = v1023 (ix3 (0 : Fin 1) (0 : Fin 1) l) := by
  unfold k0_pay150
  exact cast_16 v1023 l

theorem k0_pay151_lane (v1028 : Vec F S1x1x16 .f32) (l : Fin 16) :
    k0_pay151 v1028 (ix1 l) = v1028 (ix3 (0 : Fin 1) (0 : Fin 1) l) := by
  unfold k0_pay151
  exact cast_16 v1028 l

theorem k0_pay152_lane (v1033 : Vec F S1x1x16 .f32) (l : Fin 16) :
    k0_pay152 v1033 (ix1 l) = v1033 (ix3 (0 : Fin 1) (0 : Fin 1) l) := by
  unfold k0_pay152
  exact cast_16 v1033 l

theorem k0_pay153_lane (v1038 : Vec F S1x1x16 .f32) (l : Fin 16) :
    k0_pay153 v1038 (ix1 l) = v1038 (ix3 (0 : Fin 1) (0 : Fin 1) l) := by
  unfold k0_pay153
  exact cast_16 v1038 l

theorem k0_pay154_lane (v1043 : Vec F S1x1x16 .f32) (l : Fin 16) :
    k0_pay154 v1043 (ix1 l) = v1043 (ix3 (0 : Fin 1) (0 : Fin 1) l) := by
  unfold k0_pay154
  exact cast_16 v1043 l

theorem k0_pay155_lane (v1048 : Vec F S1x1x16 .f32) (l : Fin 16) :
    k0_pay155 v1048 (ix1 l) = v1048 (ix3 (0 : Fin 1) (0 : Fin 1) l) := by
  unfold k0_pay155
  exact cast_16 v1048 l

theorem k0_pay156_lane (v1053 : Vec F S1x1x16 .f32) (l : Fin 16) :
    k0_pay156 v1053 (ix1 l) = v1053 (ix3 (0 : Fin 1) (0 : Fin 1) l) := by
  unfold k0_pay156
  exact cast_16 v1053 l

theorem k0_pay157_lane (v899 : FVec F S16 .f32) (v904 : FVec F S16 .f32) (l : Fin 16) :
    k0_pay157 v899 v904 (ix1 l) = FloatOps.addf (v899 (ix1 l)) (v904 (ix1 l)) := by
  unfold k0_pay157
  exact congrArg₂ FloatOps.addf (rfl) (rfl)

theorem k0_pay158_lane (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (l : Fin 16) :
    k0_pay158 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = FloatOps.addf (FloatOps.addf (FloatOps.addf (FloatOps.addf (v1055 (ix1 l)) (FloatOps.addf (v909 (ix1 l)) (v914 (ix1 l)))) (FloatOps.addf (FloatOps.addf (v919 (ix1 l)) (v924 (ix1 l))) (FloatOps.addf (v929 (ix1 l)) (v934 (ix1 l))))) (FloatOps.addf (FloatOps.addf (FloatOps.addf (v939 (ix1 l)) (v944 (ix1 l))) (FloatOps.addf (v949 (ix1 l)) (v954 (ix1 l)))) (FloatOps.addf (FloatOps.addf (v959 (ix1 l)) (v964 (ix1 l))) (FloatOps.addf (v969 (ix1 l)) (v974 (ix1 l)))))) (FloatOps.addf (FloatOps.addf (FloatOps.addf (FloatOps.addf (v979 (ix1 l)) (v984 (ix1 l))) (FloatOps.addf (v989 (ix1 l)) (v994 (ix1 l)))) (FloatOps.addf (FloatOps.addf (v999 (ix1 l)) (v1004 (ix1 l))) (FloatOps.addf (v1009 (ix1 l)) (v1014 (ix1 l))))) (FloatOps.addf (FloatOps.addf (FloatOps.addf (v1019 (ix1 l)) (v1024 (ix1 l))) (FloatOps.addf (v1029 (ix1 l)) (v1034 (ix1 l)))) (FloatOps.addf (FloatOps.addf (v1039 (ix1 l)) (v1044 (ix1 l))) (FloatOps.addf (v1049 (ix1 l)) (v1054 (ix1 l)))))) := by
  unfold k0_pay158
  refine (cast_116 _ l).trans ?_
  exact congrArg₂ FloatOps.addf (congrArg₂ FloatOps.addf (congrArg₂ FloatOps.addf (congrArg₂ FloatOps.addf (rfl) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k0_pay158_tree (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (w : Fin 32 → F .f32) (l : Fin 16)
    (h_v1055 : v1055 (ix1 l) = FloatOps.addf (w 0) (w 1))
    (h_v909 : v909 (ix1 l) = w 2)
    (h_v914 : v914 (ix1 l) = w 3)
    (h_v919 : v919 (ix1 l) = w 4)
    (h_v924 : v924 (ix1 l) = w 5)
    (h_v929 : v929 (ix1 l) = w 6)
    (h_v934 : v934 (ix1 l) = w 7)
    (h_v939 : v939 (ix1 l) = w 8)
    (h_v944 : v944 (ix1 l) = w 9)
    (h_v949 : v949 (ix1 l) = w 10)
    (h_v954 : v954 (ix1 l) = w 11)
    (h_v959 : v959 (ix1 l) = w 12)
    (h_v964 : v964 (ix1 l) = w 13)
    (h_v969 : v969 (ix1 l) = w 14)
    (h_v974 : v974 (ix1 l) = w 15)
    (h_v979 : v979 (ix1 l) = w 16)
    (h_v984 : v984 (ix1 l) = w 17)
    (h_v989 : v989 (ix1 l) = w 18)
    (h_v994 : v994 (ix1 l) = w 19)
    (h_v999 : v999 (ix1 l) = w 20)
    (h_v1004 : v1004 (ix1 l) = w 21)
    (h_v1009 : v1009 (ix1 l) = w 22)
    (h_v1014 : v1014 (ix1 l) = w 23)
    (h_v1019 : v1019 (ix1 l) = w 24)
    (h_v1024 : v1024 (ix1 l) = w 25)
    (h_v1029 : v1029 (ix1 l) = w 26)
    (h_v1034 : v1034 (ix1 l) = w 27)
    (h_v1039 : v1039 (ix1 l) = w 28)
    (h_v1044 : v1044 (ix1 l) = w 29)
    (h_v1049 : v1049 (ix1 l) = w 30)
    (h_v1054 : v1054 (ix1 l) = w 31) :
    k0_pay158 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = tree32 w := by
  unfold k0_pay158
  refine (cast_116 _ l).trans ?_
  exact congrArg₂ FloatOps.addf (congrArg₂ FloatOps.addf (congrArg₂ FloatOps.addf (congrArg₂ FloatOps.addf (h_v1055) (congrArg₂ FloatOps.addf (h_v909) (h_v914))) (congrArg₂ FloatOps.addf (congrArg₂ FloatOps.addf (h_v919) (h_v924)) (congrArg₂ FloatOps.addf (h_v929) (h_v934)))) (congrArg₂ FloatOps.addf (congrArg₂ FloatOps.addf (congrArg₂ FloatOps.addf (h_v939) (h_v944)) (congrArg₂ FloatOps.addf (h_v949) (h_v954))) (congrArg₂ FloatOps.addf (congrArg₂ FloatOps.addf (h_v959) (h_v964)) (congrArg₂ FloatOps.addf (h_v969) (h_v974))))) (congrArg₂ FloatOps.addf (congrArg₂ FloatOps.addf (congrArg₂ FloatOps.addf (congrArg₂ FloatOps.addf (h_v979) (h_v984)) (congrArg₂ FloatOps.addf (h_v989) (h_v994))) (congrArg₂ FloatOps.addf (congrArg₂ FloatOps.addf (h_v999) (h_v1004)) (congrArg₂ FloatOps.addf (h_v1009) (h_v1014)))) (congrArg₂ FloatOps.addf (congrArg₂ FloatOps.addf (congrArg₂ FloatOps.addf (h_v1019) (h_v1024)) (congrArg₂ FloatOps.addf (h_v1029) (h_v1034))) (congrArg₂ FloatOps.addf (congrArg₂ FloatOps.addf (h_v1039) (h_v1044)) (congrArg₂ FloatOps.addf (h_v1049) (h_v1054)))))

theorem k0_pay159_lane (v1094 : Vec F S1x1x16 .f32) (l : Fin 16) :
    k0_pay159 v1094 (ix1 l) = v1094 (ix3 (0 : Fin 1) (0 : Fin 1) l) := by
  unfold k0_pay159
  exact cast_16 v1094 l

theorem k0_pay160_lane (v1099 : Vec F S1x1x16 .f32) (l : Fin 16) :
    k0_pay160 v1099 (ix1 l) = v1099 (ix3 (0 : Fin 1) (0 : Fin 1) l) := by
  unfold k0_pay160
  exact cast_16 v1099 l

theorem k0_pay161_lane (v1104 : Vec F S1x1x16 .f32) (l : Fin 16) :
    k0_pay161 v1104 (ix1 l) = v1104 (ix3 (0 : Fin 1) (0 : Fin 1) l) := by
  unfold k0_pay161
  exact cast_16 v1104 l

theorem k0_pay162_lane (v1109 : Vec F S1x1x16 .f32) (l : Fin 16) :
    k0_pay162 v1109 (ix1 l) = v1109 (ix3 (0 : Fin 1) (0 : Fin 1) l) := by
  unfold k0_pay162
  exact cast_16 v1109 l

theorem k0_pay163_lane (v1114 : Vec F S1x1x16 .f32) (l : Fin 16) :
    k0_pay163 v1114 (ix1 l) = v1114 (ix3 (0 : Fin 1) (0 : Fin 1) l) := by
  unfold k0_pay163
  exact cast_16 v1114 l

theorem k0_pay164_lane (v1119 : Vec F S1x1x16 .f32) (l : Fin 16) :
    k0_pay164 v1119 (ix1 l) = v1119 (ix3 (0 : Fin 1) (0 : Fin 1) l) := by
  unfold k0_pay164
  exact cast_16 v1119 l

theorem k0_pay165_lane (v1124 : Vec F S1x1x16 .f32) (l : Fin 16) :
    k0_pay165 v1124 (ix1 l) = v1124 (ix3 (0 : Fin 1) (0 : Fin 1) l) := by
  unfold k0_pay165
  exact cast_16 v1124 l

theorem k0_pay166_lane (v1129 : Vec F S1x1x16 .f32) (l : Fin 16) :
    k0_pay166 v1129 (ix1 l) = v1129 (ix3 (0 : Fin 1) (0 : Fin 1) l) := by
  unfold k0_pay166
  exact cast_16 v1129 l

theorem k0_pay167_lane (v1134 : Vec F S1x1x16 .f32) (l : Fin 16) :
    k0_pay167 v1134 (ix1 l) = v1134 (ix3 (0 : Fin 1) (0 : Fin 1) l) := by
  unfold k0_pay167
  exact cast_16 v1134 l

theorem k0_pay168_lane (v1139 : Vec F S1x1x16 .f32) (l : Fin 16) :
    k0_pay168 v1139 (ix1 l) = v1139 (ix3 (0 : Fin 1) (0 : Fin 1) l) := by
  unfold k0_pay168
  exact cast_16 v1139 l

theorem k0_pay169_lane (v1144 : Vec F S1x1x16 .f32) (l : Fin 16) :
    k0_pay169 v1144 (ix1 l) = v1144 (ix3 (0 : Fin 1) (0 : Fin 1) l) := by
  unfold k0_pay169
  exact cast_16 v1144 l

theorem k0_pay170_lane (v1149 : Vec F S1x1x16 .f32) (l : Fin 16) :
    k0_pay170 v1149 (ix1 l) = v1149 (ix3 (0 : Fin 1) (0 : Fin 1) l) := by
  unfold k0_pay170
  exact cast_16 v1149 l

theorem k0_pay171_lane (v1154 : Vec F S1x1x16 .f32) (l : Fin 16) :
    k0_pay171 v1154 (ix1 l) = v1154 (ix3 (0 : Fin 1) (0 : Fin 1) l) := by
  unfold k0_pay171
  exact cast_16 v1154 l

theorem k0_pay172_lane (v1159 : Vec F S1x1x16 .f32) (l : Fin 16) :
    k0_pay172 v1159 (ix1 l) = v1159 (ix3 (0 : Fin 1) (0 : Fin 1) l) := by
  unfold k0_pay172
  exact cast_16 v1159 l

theorem k0_pay173_lane (v1164 : Vec F S1x1x16 .f32) (l : Fin 16) :
    k0_pay173 v1164 (ix1 l) = v1164 (ix3 (0 : Fin 1) (0 : Fin 1) l) := by
  unfold k0_pay173
  exact cast_16 v1164 l

theorem k0_pay174_lane (v1169 : Vec F S1x1x16 .f32) (l : Fin 16) :
    k0_pay174 v1169 (ix1 l) = v1169 (ix3 (0 : Fin 1) (0 : Fin 1) l) := by
  unfold k0_pay174
  exact cast_16 v1169 l

theorem k0_pay175_lane (v1174 : Vec F S1x1x16 .f32) (l : Fin 16) :
    k0_pay175 v1174 (ix1 l) = v1174 (ix3 (0 : Fin 1) (0 : Fin 1) l) := by
  unfold k0_pay175
  exact cast_16 v1174 l

theorem k0_pay176_lane (v1179 : Vec F S1x1x16 .f32) (l : Fin 16) :
    k0_pay176 v1179 (ix1 l) = v1179 (ix3 (0 : Fin 1) (0 : Fin 1) l) := by
  unfold k0_pay176
  exact cast_16 v1179 l

theorem k0_pay177_lane (v1184 : Vec F S1x1x16 .f32) (l : Fin 16) :
    k0_pay177 v1184 (ix1 l) = v1184 (ix3 (0 : Fin 1) (0 : Fin 1) l) := by
  unfold k0_pay177
  exact cast_16 v1184 l

theorem k0_pay178_lane (v1189 : Vec F S1x1x16 .f32) (l : Fin 16) :
    k0_pay178 v1189 (ix1 l) = v1189 (ix3 (0 : Fin 1) (0 : Fin 1) l) := by
  unfold k0_pay178
  exact cast_16 v1189 l

theorem k0_pay179_lane (v1194 : Vec F S1x1x16 .f32) (l : Fin 16) :
    k0_pay179 v1194 (ix1 l) = v1194 (ix3 (0 : Fin 1) (0 : Fin 1) l) := by
  unfold k0_pay179
  exact cast_16 v1194 l

theorem k0_pay180_lane (v1199 : Vec F S1x1x16 .f32) (l : Fin 16) :
    k0_pay180 v1199 (ix1 l) = v1199 (ix3 (0 : Fin 1) (0 : Fin 1) l) := by
  unfold k0_pay180
  exact cast_16 v1199 l

theorem k0_pay181_lane (v1204 : Vec F S1x1x16 .f32) (l : Fin 16) :
    k0_pay181 v1204 (ix1 l) = v1204 (ix3 (0 : Fin 1) (0 : Fin 1) l) := by
  unfold k0_pay181
  exact cast_16 v1204 l

theorem k0_pay182_lane (v1209 : Vec F S1x1x16 .f32) (l : Fin 16) :
    k0_pay182 v1209 (ix1 l) = v1209 (ix3 (0 : Fin 1) (0 : Fin 1) l) := by
  unfold k0_pay182
  exact cast_16 v1209 l

theorem k0_pay183_lane (v1214 : Vec F S1x1x16 .f32) (l : Fin 16) :
    k0_pay183 v1214 (ix1 l) = v1214 (ix3 (0 : Fin 1) (0 : Fin 1) l) := by
  unfold k0_pay183
  exact cast_16 v1214 l

theorem k0_pay184_lane (v1219 : Vec F S1x1x16 .f32) (l : Fin 16) :
    k0_pay184 v1219 (ix1 l) = v1219 (ix3 (0 : Fin 1) (0 : Fin 1) l) := by
  unfold k0_pay184
  exact cast_16 v1219 l

theorem k0_pay185_lane (v1224 : Vec F S1x1x16 .f32) (l : Fin 16) :
    k0_pay185 v1224 (ix1 l) = v1224 (ix3 (0 : Fin 1) (0 : Fin 1) l) := by
  unfold k0_pay185
  exact cast_16 v1224 l

theorem k0_pay186_lane (v1229 : Vec F S1x1x16 .f32) (l : Fin 16) :
    k0_pay186 v1229 (ix1 l) = v1229 (ix3 (0 : Fin 1) (0 : Fin 1) l) := by
  unfold k0_pay186
  exact cast_16 v1229 l

theorem k0_pay187_lane (v1234 : Vec F S1x1x16 .f32) (l : Fin 16) :
    k0_pay187 v1234 (ix1 l) = v1234 (ix3 (0 : Fin 1) (0 : Fin 1) l) := by
  unfold k0_pay187
  exact cast_16 v1234 l

theorem k0_pay188_lane (v1239 : Vec F S1x1x16 .f32) (l : Fin 16) :
    k0_pay188 v1239 (ix1 l) = v1239 (ix3 (0 : Fin 1) (0 : Fin 1) l) := by
  unfold k0_pay188
  exact cast_16 v1239 l

theorem k0_pay189_lane (v1244 : Vec F S1x1x16 .f32) (l : Fin 16) :
    k0_pay189 v1244 (ix1 l) = v1244 (ix3 (0 : Fin 1) (0 : Fin 1) l) := by
  unfold k0_pay189
  exact cast_16 v1244 l

theorem k0_pay190_lane (v1249 : Vec F S1x1x16 .f32) (l : Fin 16) :
    k0_pay190 v1249 (ix1 l) = v1249 (ix3 (0 : Fin 1) (0 : Fin 1) l) := by
  unfold k0_pay190
  exact cast_16 v1249 l

theorem k0_pay191_lane (v1095 : FVec F S16 .f32) (v1100 : FVec F S16 .f32) (l : Fin 16) :
    k0_pay191 v1095 v1100 (ix1 l) = FloatOps.addf (v1095 (ix1 l)) (v1100 (ix1 l)) := by
  unfold k0_pay191
  exact congrArg₂ FloatOps.addf (rfl) (rfl)

theorem k0_pay192_lane (v1105 : FVec F S16 .f32) (v1110 : FVec F S16 .f32) (l : Fin 16) :
    k0_pay192 v1105 v1110 (ix1 l) = FloatOps.addf (v1105 (ix1 l)) (v1110 (ix1 l)) := by
  unfold k0_pay192
  exact congrArg₂ FloatOps.addf (rfl) (rfl)

theorem k0_pay193_lane (v1115 : FVec F S16 .f32) (v1120 : FVec F S16 .f32) (l : Fin 16) :
    k0_pay193 v1115 v1120 (ix1 l) = FloatOps.addf (v1115 (ix1 l)) (v1120 (ix1 l)) := by
  unfold k0_pay193
  exact congrArg₂ FloatOps.addf (rfl) (rfl)

theorem k0_pay194_lane (v1125 : FVec F S16 .f32) (v1130 : FVec F S16 .f32) (l : Fin 16) :
    k0_pay194 v1125 v1130 (ix1 l) = FloatOps.addf (v1125 (ix1 l)) (v1130 (ix1 l)) := by
  unfold k0_pay194
  exact congrArg₂ FloatOps.addf (rfl) (rfl)

theorem k0_pay195_lane (v1135 : FVec F S16 .f32) (v1140 : FVec F S16 .f32) (l : Fin 16) :
    k0_pay195 v1135 v1140 (ix1 l) = FloatOps.addf (v1135 (ix1 l)) (v1140 (ix1 l)) := by
  unfold k0_pay195
  exact congrArg₂ FloatOps.addf (rfl) (rfl)

theorem k0_pay196_lane (v1145 : FVec F S16 .f32) (v1150 : FVec F S16 .f32) (l : Fin 16) :
    k0_pay196 v1145 v1150 (ix1 l) = FloatOps.addf (v1145 (ix1 l)) (v1150 (ix1 l)) := by
  unfold k0_pay196
  exact congrArg₂ FloatOps.addf (rfl) (rfl)

theorem k0_pay197_lane (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (l : Fin 16) :
    k0_pay197 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = FloatOps.addf (FloatOps.addf (FloatOps.addf (FloatOps.addf (v1251 (ix1 l)) (v1252 (ix1 l))) (FloatOps.addf (v1253 (ix1 l)) (v1254 (ix1 l)))) (FloatOps.addf (FloatOps.addf (v1255 (ix1 l)) (v1256 (ix1 l))) (FloatOps.addf (FloatOps.addf (v1155 (ix1 l)) (v1160 (ix1 l))) (FloatOps.addf (v1165 (ix1 l)) (v1170 (ix1 l)))))) (FloatOps.addf (FloatOps.addf (FloatOps.addf (FloatOps.addf (v1175 (ix1 l)) (v1180 (ix1 l))) (FloatOps.addf (v1185 (ix1 l)) (v1190 (ix1 l)))) (FloatOps.addf (FloatOps.addf (v1195 (ix1 l)) (v1200 (ix1 l))) (FloatOps.addf (v1205 (ix1 l)) (v1210 (ix1 l))))) (FloatOps.addf (FloatOps.addf (FloatOps.addf (v1215 (ix1 l)) (v1220 (ix1 l))) (FloatOps.addf (v1225 (ix1 l)) (v1230 (ix1 l)))) (FloatOps.addf (FloatOps.addf (v1235 (ix1 l)) (v1240 (ix1 l))) (FloatOps.addf (v1245 (ix1 l)) (v1250 (ix1 l)))))) := by
  unfold k0_pay197
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k0_pay197_tree (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (w : Fin 32 → F .f32) (l : Fin 16)
    (h_v1251 : v1251 (ix1 l) = FloatOps.addf (w 0) (w 1))
    (h_v1252 : v1252 (ix1 l) = FloatOps.addf (w 2) (w 3))
    (h_v1253 : v1253 (ix1 l) = FloatOps.addf (w 4) (w 5))
    (h_v1254 : v1254 (ix1 l) = FloatOps.addf (w 6) (w 7))
    (h_v1255 : v1255 (ix1 l) = FloatOps.addf (w 8) (w 9))
    (h_v1256 : v1256 (ix1 l) = FloatOps.addf (w 10) (w 11))
    (h_v1155 : v1155 (ix1 l) = w 12)
    (h_v1160 : v1160 (ix1 l) = w 13)
    (h_v1165 : v1165 (ix1 l) = w 14)
    (h_v1170 : v1170 (ix1 l) = w 15)
    (h_v1175 : v1175 (ix1 l) = w 16)
    (h_v1180 : v1180 (ix1 l) = w 17)
    (h_v1185 : v1185 (ix1 l) = w 18)
    (h_v1190 : v1190 (ix1 l) = w 19)
    (h_v1195 : v1195 (ix1 l) = w 20)
    (h_v1200 : v1200 (ix1 l) = w 21)
    (h_v1205 : v1205 (ix1 l) = w 22)
    (h_v1210 : v1210 (ix1 l) = w 23)
    (h_v1215 : v1215 (ix1 l) = w 24)
    (h_v1220 : v1220 (ix1 l) = w 25)
    (h_v1225 : v1225 (ix1 l) = w 26)
    (h_v1230 : v1230 (ix1 l) = w 27)
    (h_v1235 : v1235 (ix1 l) = w 28)
    (h_v1240 : v1240 (ix1 l) = w 29)
    (h_v1245 : v1245 (ix1 l) = w 30)
    (h_v1250 : v1250 (ix1 l) = w 31) :
    k0_pay197 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = tree32 w := by
  unfold k0_pay197
  refine (cast_116 _ l).trans ?_
  exact congrArg₂ FloatOps.addf (congrArg₂ FloatOps.addf (congrArg₂ FloatOps.addf (congrArg₂ FloatOps.addf (h_v1251) (h_v1252)) (congrArg₂ FloatOps.addf (h_v1253) (h_v1254))) (congrArg₂ FloatOps.addf (congrArg₂ FloatOps.addf (h_v1255) (h_v1256)) (congrArg₂ FloatOps.addf (congrArg₂ FloatOps.addf (h_v1155) (h_v1160)) (congrArg₂ FloatOps.addf (h_v1165) (h_v1170))))) (congrArg₂ FloatOps.addf (congrArg₂ FloatOps.addf (congrArg₂ FloatOps.addf (congrArg₂ FloatOps.addf (h_v1175) (h_v1180)) (congrArg₂ FloatOps.addf (h_v1185) (h_v1190))) (congrArg₂ FloatOps.addf (congrArg₂ FloatOps.addf (h_v1195) (h_v1200)) (congrArg₂ FloatOps.addf (h_v1205) (h_v1210)))) (congrArg₂ FloatOps.addf (congrArg₂ FloatOps.addf (congrArg₂ FloatOps.addf (h_v1215) (h_v1220)) (congrArg₂ FloatOps.addf (h_v1225) (h_v1230))) (congrArg₂ FloatOps.addf (congrArg₂ FloatOps.addf (h_v1235) (h_v1240)) (congrArg₂ FloatOps.addf (h_v1245) (h_v1250)))))

theorem k0_pay198_lane (v1290 : Vec F S1x1x16 .f32) (l : Fin 16) :
    k0_pay198 v1290 (ix1 l) = v1290 (ix3 (0 : Fin 1) (0 : Fin 1) l) := by
  unfold k0_pay198
  exact cast_16 v1290 l

theorem k0_pay199_lane (v1295 : Vec F S1x1x16 .f32) (l : Fin 16) :
    k0_pay199 v1295 (ix1 l) = v1295 (ix3 (0 : Fin 1) (0 : Fin 1) l) := by
  unfold k0_pay199
  exact cast_16 v1295 l

theorem k0_pay200_lane (v1300 : Vec F S1x1x16 .f32) (l : Fin 16) :
    k0_pay200 v1300 (ix1 l) = v1300 (ix3 (0 : Fin 1) (0 : Fin 1) l) := by
  unfold k0_pay200
  exact cast_16 v1300 l

theorem k0_pay201_lane (v1305 : Vec F S1x1x16 .f32) (l : Fin 16) :
    k0_pay201 v1305 (ix1 l) = v1305 (ix3 (0 : Fin 1) (0 : Fin 1) l) := by
  unfold k0_pay201
  exact cast_16 v1305 l

theorem k0_pay202_lane (v1310 : Vec F S1x1x16 .f32) (l : Fin 16) :
    k0_pay202 v1310 (ix1 l) = v1310 (ix3 (0 : Fin 1) (0 : Fin 1) l) := by
  unfold k0_pay202
  exact cast_16 v1310 l

theorem k0_pay203_lane (v1315 : Vec F S1x1x16 .f32) (l : Fin 16) :
    k0_pay203 v1315 (ix1 l) = v1315 (ix3 (0 : Fin 1) (0 : Fin 1) l) := by
  unfold k0_pay203
  exact cast_16 v1315 l

theorem k0_pay204_lane (v1320 : Vec F S1x1x16 .f32) (l : Fin 16) :
    k0_pay204 v1320 (ix1 l) = v1320 (ix3 (0 : Fin 1) (0 : Fin 1) l) := by
  unfold k0_pay204
  exact cast_16 v1320 l

theorem k0_pay205_lane (v1325 : Vec F S1x1x16 .f32) (l : Fin 16) :
    k0_pay205 v1325 (ix1 l) = v1325 (ix3 (0 : Fin 1) (0 : Fin 1) l) := by
  unfold k0_pay205
  exact cast_16 v1325 l

theorem k0_pay206_lane (v1330 : Vec F S1x1x16 .f32) (l : Fin 16) :
    k0_pay206 v1330 (ix1 l) = v1330 (ix3 (0 : Fin 1) (0 : Fin 1) l) := by
  unfold k0_pay206
  exact cast_16 v1330 l

theorem k0_pay207_lane (v1335 : Vec F S1x1x16 .f32) (l : Fin 16) :
    k0_pay207 v1335 (ix1 l) = v1335 (ix3 (0 : Fin 1) (0 : Fin 1) l) := by
  unfold k0_pay207
  exact cast_16 v1335 l

theorem k0_pay208_lane (v1340 : Vec F S1x1x16 .f32) (l : Fin 16) :
    k0_pay208 v1340 (ix1 l) = v1340 (ix3 (0 : Fin 1) (0 : Fin 1) l) := by
  unfold k0_pay208
  exact cast_16 v1340 l

theorem k0_pay209_lane (v1345 : Vec F S1x1x16 .f32) (l : Fin 16) :
    k0_pay209 v1345 (ix1 l) = v1345 (ix3 (0 : Fin 1) (0 : Fin 1) l) := by
  unfold k0_pay209
  exact cast_16 v1345 l

theorem k0_pay210_lane (v1350 : Vec F S1x1x16 .f32) (l : Fin 16) :
    k0_pay210 v1350 (ix1 l) = v1350 (ix3 (0 : Fin 1) (0 : Fin 1) l) := by
  unfold k0_pay210
  exact cast_16 v1350 l

theorem k0_pay211_lane (v1355 : Vec F S1x1x16 .f32) (l : Fin 16) :
    k0_pay211 v1355 (ix1 l) = v1355 (ix3 (0 : Fin 1) (0 : Fin 1) l) := by
  unfold k0_pay211
  exact cast_16 v1355 l

theorem k0_pay212_lane (v1360 : Vec F S1x1x16 .f32) (l : Fin 16) :
    k0_pay212 v1360 (ix1 l) = v1360 (ix3 (0 : Fin 1) (0 : Fin 1) l) := by
  unfold k0_pay212
  exact cast_16 v1360 l

theorem k0_pay213_lane (v1365 : Vec F S1x1x16 .f32) (l : Fin 16) :
    k0_pay213 v1365 (ix1 l) = v1365 (ix3 (0 : Fin 1) (0 : Fin 1) l) := by
  unfold k0_pay213
  exact cast_16 v1365 l

theorem k0_pay214_lane (v1370 : Vec F S1x1x16 .f32) (l : Fin 16) :
    k0_pay214 v1370 (ix1 l) = v1370 (ix3 (0 : Fin 1) (0 : Fin 1) l) := by
  unfold k0_pay214
  exact cast_16 v1370 l

theorem k0_pay215_lane (v1375 : Vec F S1x1x16 .f32) (l : Fin 16) :
    k0_pay215 v1375 (ix1 l) = v1375 (ix3 (0 : Fin 1) (0 : Fin 1) l) := by
  unfold k0_pay215
  exact cast_16 v1375 l

theorem k0_pay216_lane (v1380 : Vec F S1x1x16 .f32) (l : Fin 16) :
    k0_pay216 v1380 (ix1 l) = v1380 (ix3 (0 : Fin 1) (0 : Fin 1) l) := by
  unfold k0_pay216
  exact cast_16 v1380 l

theorem k0_pay217_lane (v1385 : Vec F S1x1x16 .f32) (l : Fin 16) :
    k0_pay217 v1385 (ix1 l) = v1385 (ix3 (0 : Fin 1) (0 : Fin 1) l) := by
  unfold k0_pay217
  exact cast_16 v1385 l

theorem k0_pay218_lane (v1390 : Vec F S1x1x16 .f32) (l : Fin 16) :
    k0_pay218 v1390 (ix1 l) = v1390 (ix3 (0 : Fin 1) (0 : Fin 1) l) := by
  unfold k0_pay218
  exact cast_16 v1390 l

theorem k0_pay219_lane (v1395 : Vec F S1x1x16 .f32) (l : Fin 16) :
    k0_pay219 v1395 (ix1 l) = v1395 (ix3 (0 : Fin 1) (0 : Fin 1) l) := by
  unfold k0_pay219
  exact cast_16 v1395 l

theorem k0_pay220_lane (v1400 : Vec F S1x1x16 .f32) (l : Fin 16) :
    k0_pay220 v1400 (ix1 l) = v1400 (ix3 (0 : Fin 1) (0 : Fin 1) l) := by
  unfold k0_pay220
  exact cast_16 v1400 l

theorem k0_pay221_lane (v1405 : Vec F S1x1x16 .f32) (l : Fin 16) :
    k0_pay221 v1405 (ix1 l) = v1405 (ix3 (0 : Fin 1) (0 : Fin 1) l) := by
  unfold k0_pay221
  exact cast_16 v1405 l

theorem k0_pay222_lane (v1410 : Vec F S1x1x16 .f32) (l : Fin 16) :
    k0_pay222 v1410 (ix1 l) = v1410 (ix3 (0 : Fin 1) (0 : Fin 1) l) := by
  unfold k0_pay222
  exact cast_16 v1410 l

theorem k0_pay223_lane (v1415 : Vec F S1x1x16 .f32) (l : Fin 16) :
    k0_pay223 v1415 (ix1 l) = v1415 (ix3 (0 : Fin 1) (0 : Fin 1) l) := by
  unfold k0_pay223
  exact cast_16 v1415 l

theorem k0_pay224_lane (v1420 : Vec F S1x1x16 .f32) (l : Fin 16) :
    k0_pay224 v1420 (ix1 l) = v1420 (ix3 (0 : Fin 1) (0 : Fin 1) l) := by
  unfold k0_pay224
  exact cast_16 v1420 l

theorem k0_pay225_lane (v1425 : Vec F S1x1x16 .f32) (l : Fin 16) :
    k0_pay225 v1425 (ix1 l) = v1425 (ix3 (0 : Fin 1) (0 : Fin 1) l) := by
  unfold k0_pay225
  exact cast_16 v1425 l

theorem k0_pay226_lane (v1430 : Vec F S1x1x16 .f32) (l : Fin 16) :
    k0_pay226 v1430 (ix1 l) = v1430 (ix3 (0 : Fin 1) (0 : Fin 1) l) := by
  unfold k0_pay226
  exact cast_16 v1430 l

theorem k0_pay227_lane (v1435 : Vec F S1x1x16 .f32) (l : Fin 16) :
    k0_pay227 v1435 (ix1 l) = v1435 (ix3 (0 : Fin 1) (0 : Fin 1) l) := by
  unfold k0_pay227
  exact cast_16 v1435 l

theorem k0_pay228_lane (v1440 : Vec F S1x1x16 .f32) (l : Fin 16) :
    k0_pay228 v1440 (ix1 l) = v1440 (ix3 (0 : Fin 1) (0 : Fin 1) l) := by
  unfold k0_pay228
  exact cast_16 v1440 l

theorem k0_pay229_lane (v1445 : Vec F S1x1x16 .f32) (l : Fin 16) :
    k0_pay229 v1445 (ix1 l) = v1445 (ix3 (0 : Fin 1) (0 : Fin 1) l) := by
  unfold k0_pay229
  exact cast_16 v1445 l

theorem k0_pay230_lane (v1291 : FVec F S16 .f32) (v1296 : FVec F S16 .f32) (l : Fin 16) :
    k0_pay230 v1291 v1296 (ix1 l) = FloatOps.addf (v1291 (ix1 l)) (v1296 (ix1 l)) := by
  unfold k0_pay230
  exact congrArg₂ FloatOps.addf (rfl) (rfl)

theorem k0_pay231_lane (v1301 : FVec F S16 .f32) (v1306 : FVec F S16 .f32) (l : Fin 16) :
    k0_pay231 v1301 v1306 (ix1 l) = FloatOps.addf (v1301 (ix1 l)) (v1306 (ix1 l)) := by
  unfold k0_pay231
  exact congrArg₂ FloatOps.addf (rfl) (rfl)

theorem k0_pay232_lane (v1311 : FVec F S16 .f32) (v1316 : FVec F S16 .f32) (l : Fin 16) :
    k0_pay232 v1311 v1316 (ix1 l) = FloatOps.addf (v1311 (ix1 l)) (v1316 (ix1 l)) := by
  unfold k0_pay232
  exact congrArg₂ FloatOps.addf (rfl) (rfl)

theorem k0_pay233_lane (v1321 : FVec F S16 .f32) (v1326 : FVec F S16 .f32) (l : Fin 16) :
    k0_pay233 v1321 v1326 (ix1 l) = FloatOps.addf (v1321 (ix1 l)) (v1326 (ix1 l)) := by
  unfold k0_pay233
  exact congrArg₂ FloatOps.addf (rfl) (rfl)

theorem k0_pay234_lane (v1331 : FVec F S16 .f32) (v1336 : FVec F S16 .f32) (l : Fin 16) :
    k0_pay234 v1331 v1336 (ix1 l) = FloatOps.addf (v1331 (ix1 l)) (v1336 (ix1 l)) := by
  unfold k0_pay234
  exact congrArg₂ FloatOps.addf (rfl) (rfl)

theorem k0_pay235_lane (v1341 : FVec F S16 .f32) (v1346 : FVec F S16 .f32) (l : Fin 16) :
    k0_pay235 v1341 v1346 (ix1 l) = FloatOps.addf (v1341 (ix1 l)) (v1346 (ix1 l)) := by
  unfold k0_pay235
  exact congrArg₂ FloatOps.addf (rfl) (rfl)

theorem k0_pay236_lane (v1351 : FVec F S16 .f32) (v1356 : FVec F S16 .f32) (l : Fin 16) :
    k0_pay236 v1351 v1356 (ix1 l) = FloatOps.addf (v1351 (ix1 l)) (v1356 (ix1 l)) := by
  unfold k0_pay236
  exact congrArg₂ FloatOps.addf (rfl) (rfl)

theorem k0_pay237_lane (v1361 : FVec F S16 .f32) (v1366 : FVec F S16 .f32) (l : Fin 16) :
    k0_pay237 v1361 v1366 (ix1 l) = FloatOps.addf (v1361 (ix1 l)) (v1366 (ix1 l)) := by
  unfold k0_pay237
  exact congrArg₂ FloatOps.addf (rfl) (rfl)

theorem k0_pay238_lane (v1371 : FVec F S16 .f32) (v1376 : FVec F S16 .f32) (l : Fin 16) :
    k0_pay238 v1371 v1376 (ix1 l) = FloatOps.addf (v1371 (ix1 l)) (v1376 (ix1 l)) := by
  unfold k0_pay238
  exact congrArg₂ FloatOps.addf (rfl) (rfl)

theorem k0_pay239_lane (v1381 : FVec F S16 .f32) (v1386 : FVec F S16 .f32) (l : Fin 16) :
    k0_pay239 v1381 v1386 (ix1 l) = FloatOps.addf (v1381 (ix1 l)) (v1386 (ix1 l)) := by
  unfold k0_pay239
  exact congrArg₂ FloatOps.addf (rfl) (rfl)

theorem k0_pay240_lane (v1391 : FVec F S16 .f32) (v1396 : FVec F S16 .f32) (l : Fin 16) :
    k0_pay240 v1391 v1396 (ix1 l) = FloatOps.addf (v1391 (ix1 l)) (v1396 (ix1 l)) := by
  unfold k0_pay240
  exact congrArg₂ FloatOps.addf (rfl) (rfl)

theorem k0_pay241_lane (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (l : Fin 16) :
    k0_pay241 v1401 v1406 v1411 v1416 v1421 v1426 v1431 v1436 v1441 v1446 v1447 v1448 v1449 v1450 v1451 v1452 v1453 v1454 v1455 v1456 v1457 (ix3 (0 : Fin 1) (0 : Fin 1) l) = FloatOps.addf (FloatOps.addf (FloatOps.addf (FloatOps.addf (v1447 (ix1 l)) (v1448 (ix1 l))) (FloatOps.addf (v1449 (ix1 l)) (v1450 (ix1 l)))) (FloatOps.addf (FloatOps.addf (v1451 (ix1 l)) (v1452 (ix1 l))) (FloatOps.addf (v1453 (ix1 l)) (v1454 (ix1 l))))) (FloatOps.addf (FloatOps.addf (FloatOps.addf (v1455 (ix1 l)) (v1456 (ix1 l))) (FloatOps.addf (v1457 (ix1 l)) (FloatOps.addf (v1401 (ix1 l)) (v1406 (ix1 l))))) (FloatOps.addf (FloatOps.addf (FloatOps.addf (v1411 (ix1 l)) (v1416 (ix1 l))) (FloatOps.addf (v1421 (ix1 l)) (v1426 (ix1 l)))) (FloatOps.addf (FloatOps.addf (v1431 (ix1 l)) (v1436 (ix1 l))) (FloatOps.addf (v1441 (ix1 l)) (v1446 (ix1 l)))))) := by
  unfold k0_pay241
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k0_pay241_tree (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (w : Fin 32 → F .f32) (l : Fin 16)
    (h_v1447 : v1447 (ix1 l) = FloatOps.addf (w 0) (w 1))
    (h_v1448 : v1448 (ix1 l) = FloatOps.addf (w 2) (w 3))
    (h_v1449 : v1449 (ix1 l) = FloatOps.addf (w 4) (w 5))
    (h_v1450 : v1450 (ix1 l) = FloatOps.addf (w 6) (w 7))
    (h_v1451 : v1451 (ix1 l) = FloatOps.addf (w 8) (w 9))
    (h_v1452 : v1452 (ix1 l) = FloatOps.addf (w 10) (w 11))
    (h_v1453 : v1453 (ix1 l) = FloatOps.addf (w 12) (w 13))
    (h_v1454 : v1454 (ix1 l) = FloatOps.addf (w 14) (w 15))
    (h_v1455 : v1455 (ix1 l) = FloatOps.addf (w 16) (w 17))
    (h_v1456 : v1456 (ix1 l) = FloatOps.addf (w 18) (w 19))
    (h_v1457 : v1457 (ix1 l) = FloatOps.addf (w 20) (w 21))
    (h_v1401 : v1401 (ix1 l) = w 22)
    (h_v1406 : v1406 (ix1 l) = w 23)
    (h_v1411 : v1411 (ix1 l) = w 24)
    (h_v1416 : v1416 (ix1 l) = w 25)
    (h_v1421 : v1421 (ix1 l) = w 26)
    (h_v1426 : v1426 (ix1 l) = w 27)
    (h_v1431 : v1431 (ix1 l) = w 28)
    (h_v1436 : v1436 (ix1 l) = w 29)
    (h_v1441 : v1441 (ix1 l) = w 30)
    (h_v1446 : v1446 (ix1 l) = w 31) :
    k0_pay241 v1401 v1406 v1411 v1416 v1421 v1426 v1431 v1436 v1441 v1446 v1447 v1448 v1449 v1450 v1451 v1452 v1453 v1454 v1455 v1456 v1457 (ix3 (0 : Fin 1) (0 : Fin 1) l) = tree32 w := by
  unfold k0_pay241
  refine (cast_116 _ l).trans ?_
  exact congrArg₂ FloatOps.addf (congrArg₂ FloatOps.addf (congrArg₂ FloatOps.addf (congrArg₂ FloatOps.addf (h_v1447) (h_v1448)) (congrArg₂ FloatOps.addf (h_v1449) (h_v1450))) (congrArg₂ FloatOps.addf (congrArg₂ FloatOps.addf (h_v1451) (h_v1452)) (congrArg₂ FloatOps.addf (h_v1453) (h_v1454)))) (congrArg₂ FloatOps.addf (congrArg₂ FloatOps.addf (congrArg₂ FloatOps.addf (h_v1455) (h_v1456)) (congrArg₂ FloatOps.addf (h_v1457) (congrArg₂ FloatOps.addf (h_v1401) (h_v1406)))) (congrArg₂ FloatOps.addf (congrArg₂ FloatOps.addf (congrArg₂ FloatOps.addf (h_v1411) (h_v1416)) (congrArg₂ FloatOps.addf (h_v1421) (h_v1426))) (congrArg₂ FloatOps.addf (congrArg₂ FloatOps.addf (h_v1431) (h_v1436)) (congrArg₂ FloatOps.addf (h_v1441) (h_v1446)))))

theorem k0_pay242_lane (v1486 : Vec F S1x1x16 .f32) (l : Fin 16) :
    k0_pay242 v1486 (ix1 l) = v1486 (ix3 (0 : Fin 1) (0 : Fin 1) l) := by
  unfold k0_pay242
  exact cast_16 v1486 l

theorem k0_pay243_lane (v1491 : Vec F S1x1x16 .f32) (l : Fin 16) :
    k0_pay243 v1491 (ix1 l) = v1491 (ix3 (0 : Fin 1) (0 : Fin 1) l) := by
  unfold k0_pay243
  exact cast_16 v1491 l

theorem k0_pay244_lane (v1496 : Vec F S1x1x16 .f32) (l : Fin 16) :
    k0_pay244 v1496 (ix1 l) = v1496 (ix3 (0 : Fin 1) (0 : Fin 1) l) := by
  unfold k0_pay244
  exact cast_16 v1496 l

theorem k0_pay245_lane (v1501 : Vec F S1x1x16 .f32) (l : Fin 16) :
    k0_pay245 v1501 (ix1 l) = v1501 (ix3 (0 : Fin 1) (0 : Fin 1) l) := by
  unfold k0_pay245
  exact cast_16 v1501 l

theorem k0_pay246_lane (v1506 : Vec F S1x1x16 .f32) (l : Fin 16) :
    k0_pay246 v1506 (ix1 l) = v1506 (ix3 (0 : Fin 1) (0 : Fin 1) l) := by
  unfold k0_pay246
  exact cast_16 v1506 l

theorem k0_pay247_lane (v1511 : Vec F S1x1x16 .f32) (l : Fin 16) :
    k0_pay247 v1511 (ix1 l) = v1511 (ix3 (0 : Fin 1) (0 : Fin 1) l) := by
  unfold k0_pay247
  exact cast_16 v1511 l

theorem k0_pay248_lane (v1516 : Vec F S1x1x16 .f32) (l : Fin 16) :
    k0_pay248 v1516 (ix1 l) = v1516 (ix3 (0 : Fin 1) (0 : Fin 1) l) := by
  unfold k0_pay248
  exact cast_16 v1516 l

theorem k0_pay249_lane (v1521 : Vec F S1x1x16 .f32) (l : Fin 16) :
    k0_pay249 v1521 (ix1 l) = v1521 (ix3 (0 : Fin 1) (0 : Fin 1) l) := by
  unfold k0_pay249
  exact cast_16 v1521 l

theorem k0_pay250_lane (v1526 : Vec F S1x1x16 .f32) (l : Fin 16) :
    k0_pay250 v1526 (ix1 l) = v1526 (ix3 (0 : Fin 1) (0 : Fin 1) l) := by
  unfold k0_pay250
  exact cast_16 v1526 l

theorem k0_pay251_lane (v1531 : Vec F S1x1x16 .f32) (l : Fin 16) :
    k0_pay251 v1531 (ix1 l) = v1531 (ix3 (0 : Fin 1) (0 : Fin 1) l) := by
  unfold k0_pay251
  exact cast_16 v1531 l

theorem k0_pay252_lane (v1536 : Vec F S1x1x16 .f32) (l : Fin 16) :
    k0_pay252 v1536 (ix1 l) = v1536 (ix3 (0 : Fin 1) (0 : Fin 1) l) := by
  unfold k0_pay252
  exact cast_16 v1536 l

theorem k0_pay253_lane (v1541 : Vec F S1x1x16 .f32) (l : Fin 16) :
    k0_pay253 v1541 (ix1 l) = v1541 (ix3 (0 : Fin 1) (0 : Fin 1) l) := by
  unfold k0_pay253
  exact cast_16 v1541 l

theorem k0_pay254_lane (v1546 : Vec F S1x1x16 .f32) (l : Fin 16) :
    k0_pay254 v1546 (ix1 l) = v1546 (ix3 (0 : Fin 1) (0 : Fin 1) l) := by
  unfold k0_pay254
  exact cast_16 v1546 l

theorem k0_pay255_lane (v1551 : Vec F S1x1x16 .f32) (l : Fin 16) :
    k0_pay255 v1551 (ix1 l) = v1551 (ix3 (0 : Fin 1) (0 : Fin 1) l) := by
  unfold k0_pay255
  exact cast_16 v1551 l

theorem k0_pay256_lane (v1556 : Vec F S1x1x16 .f32) (l : Fin 16) :
    k0_pay256 v1556 (ix1 l) = v1556 (ix3 (0 : Fin 1) (0 : Fin 1) l) := by
  unfold k0_pay256
  exact cast_16 v1556 l

theorem k0_pay257_lane (v1561 : Vec F S1x1x16 .f32) (l : Fin 16) :
    k0_pay257 v1561 (ix1 l) = v1561 (ix3 (0 : Fin 1) (0 : Fin 1) l) := by
  unfold k0_pay257
  exact cast_16 v1561 l

theorem k0_pay258_lane (v1566 : Vec F S1x1x16 .f32) (l : Fin 16) :
    k0_pay258 v1566 (ix1 l) = v1566 (ix3 (0 : Fin 1) (0 : Fin 1) l) := by
  unfold k0_pay258
  exact cast_16 v1566 l

theorem k0_pay259_lane (v1571 : Vec F S1x1x16 .f32) (l : Fin 16) :
    k0_pay259 v1571 (ix1 l) = v1571 (ix3 (0 : Fin 1) (0 : Fin 1) l) := by
  unfold k0_pay259
  exact cast_16 v1571 l

theorem k0_pay260_lane (v1576 : Vec F S1x1x16 .f32) (l : Fin 16) :
    k0_pay260 v1576 (ix1 l) = v1576 (ix3 (0 : Fin 1) (0 : Fin 1) l) := by
  unfold k0_pay260
  exact cast_16 v1576 l

theorem k0_pay261_lane (v1581 : Vec F S1x1x16 .f32) (l : Fin 16) :
    k0_pay261 v1581 (ix1 l) = v1581 (ix3 (0 : Fin 1) (0 : Fin 1) l) := by
  unfold k0_pay261
  exact cast_16 v1581 l

theorem k0_pay262_lane (v1586 : Vec F S1x1x16 .f32) (l : Fin 16) :
    k0_pay262 v1586 (ix1 l) = v1586 (ix3 (0 : Fin 1) (0 : Fin 1) l) := by
  unfold k0_pay262
  exact cast_16 v1586 l

theorem k0_pay263_lane (v1591 : Vec F S1x1x16 .f32) (l : Fin 16) :
    k0_pay263 v1591 (ix1 l) = v1591 (ix3 (0 : Fin 1) (0 : Fin 1) l) := by
  unfold k0_pay263
  exact cast_16 v1591 l

theorem k0_pay264_lane (v1596 : Vec F S1x1x16 .f32) (l : Fin 16) :
    k0_pay264 v1596 (ix1 l) = v1596 (ix3 (0 : Fin 1) (0 : Fin 1) l) := by
  unfold k0_pay264
  exact cast_16 v1596 l

theorem k0_pay265_lane (v1601 : Vec F S1x1x16 .f32) (l : Fin 16) :
    k0_pay265 v1601 (ix1 l) = v1601 (ix3 (0 : Fin 1) (0 : Fin 1) l) := by
  unfold k0_pay265
  exact cast_16 v1601 l

theorem k0_pay266_lane (v1606 : Vec F S1x1x16 .f32) (l : Fin 16) :
    k0_pay266 v1606 (ix1 l) = v1606 (ix3 (0 : Fin 1) (0 : Fin 1) l) := by
  unfold k0_pay266
  exact cast_16 v1606 l

theorem k0_pay267_lane (v1611 : Vec F S1x1x16 .f32) (l : Fin 16) :
    k0_pay267 v1611 (ix1 l) = v1611 (ix3 (0 : Fin 1) (0 : Fin 1) l) := by
  unfold k0_pay267
  exact cast_16 v1611 l

theorem k0_pay268_lane (v1487 : FVec F S16 .f32) (v1492 : FVec F S16 .f32) (l : Fin 16) :
    k0_pay268 v1487 v1492 (ix1 l) = FloatOps.addf (v1487 (ix1 l)) (v1492 (ix1 l)) := by
  unfold k0_pay268
  exact congrArg₂ FloatOps.addf (rfl) (rfl)

theorem k0_pay269_lane (v1497 : FVec F S16 .f32) (v1502 : FVec F S16 .f32) (l : Fin 16) :
    k0_pay269 v1497 v1502 (ix1 l) = FloatOps.addf (v1497 (ix1 l)) (v1502 (ix1 l)) := by
  unfold k0_pay269
  exact congrArg₂ FloatOps.addf (rfl) (rfl)

theorem k0_pay270_lane (v1507 : FVec F S16 .f32) (v1512 : FVec F S16 .f32) (l : Fin 16) :
    k0_pay270 v1507 v1512 (ix1 l) = FloatOps.addf (v1507 (ix1 l)) (v1512 (ix1 l)) := by
  unfold k0_pay270
  exact congrArg₂ FloatOps.addf (rfl) (rfl)

theorem k0_pay271_lane (v1517 : FVec F S16 .f32) (v1522 : FVec F S16 .f32) (l : Fin 16) :
    k0_pay271 v1517 v1522 (ix1 l) = FloatOps.addf (v1517 (ix1 l)) (v1522 (ix1 l)) := by
  unfold k0_pay271
  exact congrArg₂ FloatOps.addf (rfl) (rfl)

theorem k0_pay272_lane (v1527 : FVec F S16 .f32) (v1532 : FVec F S16 .f32) (l : Fin 16) :
    k0_pay272 v1527 v1532 (ix1 l) = FloatOps.addf (v1527 (ix1 l)) (v1532 (ix1 l)) := by
  unfold k0_pay272
  exact congrArg₂ FloatOps.addf (rfl) (rfl)

theorem k0_pay273_lane (v1537 : FVec F S16 .f32) (v1542 : FVec F S16 .f32) (l : Fin 16) :
    k0_pay273 v1537 v1542 (ix1 l) = FloatOps.addf (v1537 (ix1 l)) (v1542 (ix1 l)) := by
  unfold k0_pay273
  exact congrArg₂ FloatOps.addf (rfl) (rfl)

theorem k0_pay274_lane (v1547 : FVec F S16 .f32) (v1552 : FVec F S16 .f32) (l : Fin 16) :
    k0_pay274 v1547 v1552 (ix1 l) = FloatOps.addf (v1547 (ix1 l)) (v1552 (ix1 l)) := by
  unfold k0_pay274
  exact congrArg₂ FloatOps.addf (rfl) (rfl)

theorem k0_pay275_lane (v1557 : FVec F S16 .f32) (v1562 : FVec F S16 .f32) (l : Fin 16) :
    k0_pay275 v1557 v1562 (ix1 l) = FloatOps.addf (v1557 (ix1 l)) (v1562 (ix1 l)) := by
  unfold k0_pay275
  exact congrArg₂ FloatOps.addf (rfl) (rfl)

theorem k0_pay276_lane (v1567 : FVec F S16 .f32) (v1572 : FVec F S16 .f32) (l : Fin 16) :
    k0_pay276 v1567 v1572 (ix1 l) = FloatOps.addf (v1567 (ix1 l)) (v1572 (ix1 l)) := by
  unfold k0_pay276
  exact congrArg₂ FloatOps.addf (rfl) (rfl)

theorem k0_pay277_lane (v1577 : FVec F S16 .f32) (v1582 : FVec F S16 .f32) (l : Fin 16) :
    k0_pay277 v1577 v1582 (ix1 l) = FloatOps.addf (v1577 (ix1 l)) (v1582 (ix1 l)) := by
  unfold k0_pay277
  exact congrArg₂ FloatOps.addf (rfl) (rfl)

theorem k0_pay278_lane (v1587 : FVec F S16 .f32) (v1592 : FVec F S16 .f32) (l : Fin 16) :
    k0_pay278 v1587 v1592 (ix1 l) = FloatOps.addf (v1587 (ix1 l)) (v1592 (ix1 l)) := by
  unfold k0_pay278
  exact congrArg₂ FloatOps.addf (rfl) (rfl)

theorem k0_pay279_lane (v1597 : FVec F S16 .f32) (v1602 : FVec F S16 .f32) (l : Fin 16) :
    k0_pay279 v1597 v1602 (ix1 l) = FloatOps.addf (v1597 (ix1 l)) (v1602 (ix1 l)) := by
  unfold k0_pay279
  exact congrArg₂ FloatOps.addf (rfl) (rfl)

theorem k0_pay280_lane (v1607 : FVec F S16 .f32) (v1612 : FVec F S16 .f32) (l : Fin 16) :
    k0_pay280 v1607 v1612 (ix1 l) = FloatOps.addf (v1607 (ix1 l)) (v1612 (ix1 l)) := by
  unfold k0_pay280
  exact congrArg₂ FloatOps.addf (rfl) (rfl)

theorem k0_pay281_lane (v1616 : Vec F S1x1x16 .f32) (v1621 : Vec F S1x1x16 .f32) (l : Fin 16) :
    k0_pay281 v1616 v1621 (ix1 l) = FloatOps.addf (v1616 (ix3 (0 : Fin 1) (0 : Fin 1) l)) (v1621 (ix3 (0 : Fin 1) (0 : Fin 1) l)) := by
  unfold k0_pay281
  exact congrArg₂ FloatOps.addf (cast_16 v1616 l) (cast_16 v1621 l)

theorem k0_pay282_lane (v1626 : Vec F S1x1x16 .f32) (v1631 : Vec F S1x1x16 .f32) (l : Fin 16) :
    k0_pay282 v1626 v1631 (ix1 l) = FloatOps.addf (v1626 (ix3 (0 : Fin 1) (0 : Fin 1) l)) (v1631 (ix3 (0 : Fin 1) (0 : Fin 1) l)) := by
  unfold k0_pay282
  exact congrArg₂ FloatOps.addf (cast_16 v1626 l) (cast_16 v1631 l)

theorem k0_pay283_lane (v1636 : Vec F S1x1x16 .f32) (v1641 : Vec F S1x1x16 .f32) (l : Fin 16) :
    k0_pay283 v1636 v1641 (ix1 l) = FloatOps.addf (v1636 (ix3 (0 : Fin 1) (0 : Fin 1) l)) (v1641 (ix3 (0 : Fin 1) (0 : Fin 1) l)) := by
  unfold k0_pay283
  exact congrArg₂ FloatOps.addf (cast_16 v1636 l) (cast_16 v1641 l)

theorem k0_pay284_lane (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (l : Fin 16) :
    k0_pay284 v1643 v1644 v1645 v1646 v1647 v1648 v1649 v1650 v1651 v1652 v1653 v1654 v1655 v1656 v1657 v1658 (ix1 l) = FloatOps.addf (FloatOps.addf (FloatOps.addf (FloatOps.addf (v1643 (ix1 l)) (v1644 (ix1 l))) (FloatOps.addf (v1645 (ix1 l)) (v1646 (ix1 l)))) (FloatOps.addf (FloatOps.addf (v1647 (ix1 l)) (v1648 (ix1 l))) (FloatOps.addf (v1649 (ix1 l)) (v1650 (ix1 l))))) (FloatOps.addf (FloatOps.addf (FloatOps.addf (v1651 (ix1 l)) (v1652 (ix1 l))) (FloatOps.addf (v1653 (ix1 l)) (v1654 (ix1 l)))) (FloatOps.addf (FloatOps.addf (v1655 (ix1 l)) (v1656 (ix1 l))) (FloatOps.addf (v1657 (ix1 l)) (v1658 (ix1 l))))) := by
  unfold k0_pay284
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))

theorem k0_pay284_tree (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (w : Fin 32 → F .f32) (l : Fin 16)
    (h_v1643 : v1643 (ix1 l) = FloatOps.addf (w 0) (w 1))
    (h_v1644 : v1644 (ix1 l) = FloatOps.addf (w 2) (w 3))
    (h_v1645 : v1645 (ix1 l) = FloatOps.addf (w 4) (w 5))
    (h_v1646 : v1646 (ix1 l) = FloatOps.addf (w 6) (w 7))
    (h_v1647 : v1647 (ix1 l) = FloatOps.addf (w 8) (w 9))
    (h_v1648 : v1648 (ix1 l) = FloatOps.addf (w 10) (w 11))
    (h_v1649 : v1649 (ix1 l) = FloatOps.addf (w 12) (w 13))
    (h_v1650 : v1650 (ix1 l) = FloatOps.addf (w 14) (w 15))
    (h_v1651 : v1651 (ix1 l) = FloatOps.addf (w 16) (w 17))
    (h_v1652 : v1652 (ix1 l) = FloatOps.addf (w 18) (w 19))
    (h_v1653 : v1653 (ix1 l) = FloatOps.addf (w 20) (w 21))
    (h_v1654 : v1654 (ix1 l) = FloatOps.addf (w 22) (w 23))
    (h_v1655 : v1655 (ix1 l) = FloatOps.addf (w 24) (w 25))
    (h_v1656 : v1656 (ix1 l) = FloatOps.addf (w 26) (w 27))
    (h_v1657 : v1657 (ix1 l) = FloatOps.addf (w 28) (w 29))
    (h_v1658 : v1658 (ix1 l) = FloatOps.addf (w 30) (w 31)) :
    k0_pay284 v1643 v1644 v1645 v1646 v1647 v1648 v1649 v1650 v1651 v1652 v1653 v1654 v1655 v1656 v1657 v1658 (ix1 l) = tree32 w := by
  unfold k0_pay284
  exact congrArg₂ FloatOps.addf (congrArg₂ FloatOps.addf (congrArg₂ FloatOps.addf (congrArg₂ FloatOps.addf (h_v1643) (h_v1644)) (congrArg₂ FloatOps.addf (h_v1645) (h_v1646))) (congrArg₂ FloatOps.addf (congrArg₂ FloatOps.addf (h_v1647) (h_v1648)) (congrArg₂ FloatOps.addf (h_v1649) (h_v1650)))) (congrArg₂ FloatOps.addf (congrArg₂ FloatOps.addf (congrArg₂ FloatOps.addf (h_v1651) (h_v1652)) (congrArg₂ FloatOps.addf (h_v1653) (h_v1654))) (congrArg₂ FloatOps.addf (congrArg₂ FloatOps.addf (h_v1655) (h_v1656)) (congrArg₂ FloatOps.addf (h_v1657) (h_v1658))))

theorem k0_pay285_lane (v114 : Vec F S1x1x16 .f32) (l : Fin 16) :
    k0_pay285 v114 (ix1 l) = v114 (ix3 (0 : Fin 1) (0 : Fin 1) l) := by
  unfold k0_pay285
  exact cast_16 v114 l

theorem k0_pay286_lane (v119 : Vec F S1x1x16 .f32) (l : Fin 16) :
    k0_pay286 v119 (ix1 l) = v119 (ix3 (0 : Fin 1) (0 : Fin 1) l) := by
  unfold k0_pay286
  exact cast_16 v119 l

theorem k0_pay287_lane (v124 : Vec F S1x1x16 .f32) (l : Fin 16) :
    k0_pay287 v124 (ix1 l) = v124 (ix3 (0 : Fin 1) (0 : Fin 1) l) := by
  unfold k0_pay287
  exact cast_16 v124 l

theorem k0_pay288_lane (v129 : Vec F S1x1x16 .f32) (l : Fin 16) :
    k0_pay288 v129 (ix1 l) = v129 (ix3 (0 : Fin 1) (0 : Fin 1) l) := by
  unfold k0_pay288
  exact cast_16 v129 l

theorem k0_pay289_lane (v134 : Vec F S1x1x16 .f32) (l : Fin 16) :
    k0_pay289 v134 (ix1 l) = v134 (ix3 (0 : Fin 1) (0 : Fin 1) l) := by
  unfold k0_pay289
  exact cast_16 v134 l

theorem k0_pay290_lane (v139 : Vec F S1x1x16 .f32) (l : Fin 16) :
    k0_pay290 v139 (ix1 l) = v139 (ix3 (0 : Fin 1) (0 : Fin 1) l) := by
  unfold k0_pay290
  exact cast_16 v139 l

theorem k0_pay291_lane (v144 : Vec F S1x1x16 .f32) (l : Fin 16) :
    k0_pay291 v144 (ix1 l) = v144 (ix3 (0 : Fin 1) (0 : Fin 1) l) := by
  unfold k0_pay291
  exact cast_16 v144 l

theorem k0_pay292_lane (v149 : Vec F S1x1x16 .f32) (l : Fin 16) :
    k0_pay292 v149 (ix1 l) = v149 (ix3 (0 : Fin 1) (0 : Fin 1) l) := by
  unfold k0_pay292
  exact cast_16 v149 l

theorem k0_pay293_lane (v154 : Vec F S1x1x16 .f32) (l : Fin 16) :
    k0_pay293 v154 (ix1 l) = v154 (ix3 (0 : Fin 1) (0 : Fin 1) l) := by
  unfold k0_pay293
  exact cast_16 v154 l

theorem k0_pay294_lane (v159 : Vec F S1x1x16 .f32) (l : Fin 16) :
    k0_pay294 v159 (ix1 l) = v159 (ix3 (0 : Fin 1) (0 : Fin 1) l) := by
  unfold k0_pay294
  exact cast_16 v159 l

theorem k0_pay295_lane (v164 : Vec F S1x1x16 .f32) (l : Fin 16) :
    k0_pay295 v164 (ix1 l) = v164 (ix3 (0 : Fin 1) (0 : Fin 1) l) := by
  unfold k0_pay295
  exact cast_16 v164 l

theorem k0_pay296_lane (v169 : Vec F S1x1x16 .f32) (l : Fin 16) :
    k0_pay296 v169 (ix1 l) = v169 (ix3 (0 : Fin 1) (0 : Fin 1) l) := by
  unfold k0_pay296
  exact cast_16 v169 l

theorem k0_pay297_lane (v174 : Vec F S1x1x16 .f32) (l : Fin 16) :
    k0_pay297 v174 (ix1 l) = v174 (ix3 (0 : Fin 1) (0 : Fin 1) l) := by
  unfold k0_pay297
  exact cast_16 v174 l

theorem k0_pay298_lane (v179 : Vec F S1x1x16 .f32) (l : Fin 16) :
    k0_pay298 v179 (ix1 l) = v179 (ix3 (0 : Fin 1) (0 : Fin 1) l) := by
  unfold k0_pay298
  exact cast_16 v179 l

theorem k0_pay299_lane (v184 : Vec F S1x1x16 .f32) (l : Fin 16) :
    k0_pay299 v184 (ix1 l) = v184 (ix3 (0 : Fin 1) (0 : Fin 1) l) := by
  unfold k0_pay299
  exact cast_16 v184 l

theorem k0_pay300_lane (v189 : Vec F S1x1x16 .f32) (l : Fin 16) :
    k0_pay300 v189 (ix1 l) = v189 (ix3 (0 : Fin 1) (0 : Fin 1) l) := by
  unfold k0_pay300
  exact cast_16 v189 l

theorem k0_pay301_lane (v194 : Vec F S1x1x16 .f32) (l : Fin 16) :
    k0_pay301 v194 (ix1 l) = v194 (ix3 (0 : Fin 1) (0 : Fin 1) l) := by
  unfold k0_pay301
  exact cast_16 v194 l

theorem k0_pay302_lane (v199 : Vec F S1x1x16 .f32) (l : Fin 16) :
    k0_pay302 v199 (ix1 l) = v199 (ix3 (0 : Fin 1) (0 : Fin 1) l) := by
  unfold k0_pay302
  exact cast_16 v199 l

theorem k0_pay303_lane (v204 : Vec F S1x1x16 .f32) (l : Fin 16) :
    k0_pay303 v204 (ix1 l) = v204 (ix3 (0 : Fin 1) (0 : Fin 1) l) := by
  unfold k0_pay303
  exact cast_16 v204 l

theorem k0_pay304_lane (v209 : Vec F S1x1x16 .f32) (l : Fin 16) :
    k0_pay304 v209 (ix1 l) = v209 (ix3 (0 : Fin 1) (0 : Fin 1) l) := by
  unfold k0_pay304
  exact cast_16 v209 l

theorem k0_pay305_lane (v214 : Vec F S1x1x16 .f32) (l : Fin 16) :
    k0_pay305 v214 (ix1 l) = v214 (ix3 (0 : Fin 1) (0 : Fin 1) l) := by
  unfold k0_pay305
  exact cast_16 v214 l

theorem k0_pay306_lane (v219 : Vec F S1x1x16 .f32) (l : Fin 16) :
    k0_pay306 v219 (ix1 l) = v219 (ix3 (0 : Fin 1) (0 : Fin 1) l) := by
  unfold k0_pay306
  exact cast_16 v219 l

theorem k0_pay307_lane (v224 : Vec F S1x1x16 .f32) (l : Fin 16) :
    k0_pay307 v224 (ix1 l) = v224 (ix3 (0 : Fin 1) (0 : Fin 1) l) := by
  unfold k0_pay307
  exact cast_16 v224 l

theorem k0_pay308_lane (v229 : Vec F S1x1x16 .f32) (l : Fin 16) :
    k0_pay308 v229 (ix1 l) = v229 (ix3 (0 : Fin 1) (0 : Fin 1) l) := by
  unfold k0_pay308
  exact cast_16 v229 l

theorem k0_pay309_lane (v234 : Vec F S1x1x16 .f32) (l : Fin 16) :
    k0_pay309 v234 (ix1 l) = v234 (ix3 (0 : Fin 1) (0 : Fin 1) l) := by
  unfold k0_pay309
  exact cast_16 v234 l

theorem k0_pay310_lane (v239 : Vec F S1x1x16 .f32) (l : Fin 16) :
    k0_pay310 v239 (ix1 l) = v239 (ix3 (0 : Fin 1) (0 : Fin 1) l) := by
  unfold k0_pay310
  exact cast_16 v239 l

theorem k0_pay311_lane (v244 : Vec F S1x1x16 .f32) (l : Fin 16) :
    k0_pay311 v244 (ix1 l) = v244 (ix3 (0 : Fin 1) (0 : Fin 1) l) := by
  unfold k0_pay311
  exact cast_16 v244 l

theorem k0_pay312_lane (v249 : Vec F S1x1x16 .f32) (l : Fin 16) :
    k0_pay312 v249 (ix1 l) = v249 (ix3 (0 : Fin 1) (0 : Fin 1) l) := by
  unfold k0_pay312
  exact cast_16 v249 l

theorem k0_pay313_lane (v254 : Vec F S1x1x16 .f32) (l : Fin 16) :
    k0_pay313 v254 (ix1 l) = v254 (ix3 (0 : Fin 1) (0 : Fin 1) l) := by
  unfold k0_pay313
  exact cast_16 v254 l

theorem k0_pay314_lane (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (l : Fin 16) :
    k0_pay314 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = FloatOps.addf (FloatOps.addf (FloatOps.addf (FloatOps.addf (FloatOps.addf (v115 (ix1 l)) (v120 (ix1 l))) (FloatOps.addf (v125 (ix1 l)) (v130 (ix1 l)))) (FloatOps.addf (FloatOps.addf (v135 (ix1 l)) (v140 (ix1 l))) (FloatOps.addf (v145 (ix1 l)) (v150 (ix1 l))))) (FloatOps.addf (FloatOps.addf (FloatOps.addf (v155 (ix1 l)) (v160 (ix1 l))) (FloatOps.addf (v165 (ix1 l)) (v170 (ix1 l)))) (FloatOps.addf (FloatOps.addf (v175 (ix1 l)) (v180 (ix1 l))) (FloatOps.addf (v185 (ix1 l)) (v190 (ix1 l)))))) (FloatOps.addf (FloatOps.addf (FloatOps.addf (FloatOps.addf (v195 (ix1 l)) (v200 (ix1 l))) (FloatOps.addf (v205 (ix1 l)) (v210 (ix1 l)))) (FloatOps.addf (FloatOps.addf (v215 (ix1 l)) (v220 (ix1 l))) (FloatOps.addf (v225 (ix1 l)) (v230 (ix1 l))))) (FloatOps.addf (FloatOps.addf (FloatOps.addf (v235 (ix1 l)) (v240 (ix1 l))) (FloatOps.addf (v245 (ix1 l)) (v250 (ix1 l)))) (FloatOps.addf (FloatOps.addf (v255 (ix1 l)) (v259 (ix3 (0 : Fin 1) (0 : Fin 1) l))) (FloatOps.addf (v264 (ix3 (0 : Fin 1) (0 : Fin 1) l)) (v269 (ix3 (0 : Fin 1) (0 : Fin 1) l)))))) := by
  unfold k0_pay314
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (cast_16 v259 l)) (congrArg₂ FloatOps.addf (cast_16 v264 l) (cast_16 v269 l)))))

theorem k0_pay314_tree (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (w : Fin 32 → F .f32) (l : Fin 16)
    (h_v115 : v115 (ix1 l) = w 0)
    (h_v120 : v120 (ix1 l) = w 1)
    (h_v125 : v125 (ix1 l) = w 2)
    (h_v130 : v130 (ix1 l) = w 3)
    (h_v135 : v135 (ix1 l) = w 4)
    (h_v140 : v140 (ix1 l) = w 5)
    (h_v145 : v145 (ix1 l) = w 6)
    (h_v150 : v150 (ix1 l) = w 7)
    (h_v155 : v155 (ix1 l) = w 8)
    (h_v160 : v160 (ix1 l) = w 9)
    (h_v165 : v165 (ix1 l) = w 10)
    (h_v170 : v170 (ix1 l) = w 11)
    (h_v175 : v175 (ix1 l) = w 12)
    (h_v180 : v180 (ix1 l) = w 13)
    (h_v185 : v185 (ix1 l) = w 14)
    (h_v190 : v190 (ix1 l) = w 15)
    (h_v195 : v195 (ix1 l) = w 16)
    (h_v200 : v200 (ix1 l) = w 17)
    (h_v205 : v205 (ix1 l) = w 18)
    (h_v210 : v210 (ix1 l) = w 19)
    (h_v215 : v215 (ix1 l) = w 20)
    (h_v220 : v220 (ix1 l) = w 21)
    (h_v225 : v225 (ix1 l) = w 22)
    (h_v230 : v230 (ix1 l) = w 23)
    (h_v235 : v235 (ix1 l) = w 24)
    (h_v240 : v240 (ix1 l) = w 25)
    (h_v245 : v245 (ix1 l) = w 26)
    (h_v250 : v250 (ix1 l) = w 27)
    (h_v255 : v255 (ix1 l) = w 28)
    (h_v259 : v259 (ix3 (0 : Fin 1) (0 : Fin 1) l) = w 29)
    (h_v264 : v264 (ix3 (0 : Fin 1) (0 : Fin 1) l) = w 30)
    (h_v269 : v269 (ix3 (0 : Fin 1) (0 : Fin 1) l) = w 31) :
    k0_pay314 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = tree32 w := by
  unfold k0_pay314
  refine (cast_116 _ l).trans ?_
  exact congrArg₂ FloatOps.addf (congrArg₂ FloatOps.addf (congrArg₂ FloatOps.addf (congrArg₂ FloatOps.addf (congrArg₂ FloatOps.addf (h_v115) (h_v120)) (congrArg₂ FloatOps.addf (h_v125) (h_v130))) (congrArg₂ FloatOps.addf (congrArg₂ FloatOps.addf (h_v135) (h_v140)) (congrArg₂ FloatOps.addf (h_v145) (h_v150)))) (congrArg₂ FloatOps.addf (congrArg₂ FloatOps.addf (congrArg₂ FloatOps.addf (h_v155) (h_v160)) (congrArg₂ FloatOps.addf (h_v165) (h_v170))) (congrArg₂ FloatOps.addf (congrArg₂ FloatOps.addf (h_v175) (h_v180)) (congrArg₂ FloatOps.addf (h_v185) (h_v190))))) (congrArg₂ FloatOps.addf (congrArg₂ FloatOps.addf (congrArg₂ FloatOps.addf (congrArg₂ FloatOps.addf (h_v195) (h_v200)) (congrArg₂ FloatOps.addf (h_v205) (h_v210))) (congrArg₂ FloatOps.addf (congrArg₂ FloatOps.addf (h_v215) (h_v220)) (congrArg₂ FloatOps.addf (h_v225) (h_v230)))) (congrArg₂ FloatOps.addf (congrArg₂ FloatOps.addf (congrArg₂ FloatOps.addf (h_v235) (h_v240)) (congrArg₂ FloatOps.addf (h_v245) (h_v250))) (congrArg₂ FloatOps.addf (congrArg₂ FloatOps.addf (h_v255) ((cast_16 v259 l).trans h_v259)) (congrArg₂ FloatOps.addf ((cast_16 v264 l).trans h_v264) ((cast_16 v269 l).trans h_v269)))))

theorem k0_pay315_lane (v310 : Vec F S1x1x16 .f32) (l : Fin 16) :
    k0_pay315 v310 (ix1 l) = v310 (ix3 (0 : Fin 1) (0 : Fin 1) l) := by
  unfold k0_pay315
  exact cast_16 v310 l

theorem k0_pay316_lane (v315 : Vec F S1x1x16 .f32) (l : Fin 16) :
    k0_pay316 v315 (ix1 l) = v315 (ix3 (0 : Fin 1) (0 : Fin 1) l) := by
  unfold k0_pay316
  exact cast_16 v315 l

theorem k0_pay317_lane (v320 : Vec F S1x1x16 .f32) (l : Fin 16) :
    k0_pay317 v320 (ix1 l) = v320 (ix3 (0 : Fin 1) (0 : Fin 1) l) := by
  unfold k0_pay317
  exact cast_16 v320 l

theorem k0_pay318_lane (v325 : Vec F S1x1x16 .f32) (l : Fin 16) :
    k0_pay318 v325 (ix1 l) = v325 (ix3 (0 : Fin 1) (0 : Fin 1) l) := by
  unfold k0_pay318
  exact cast_16 v325 l

theorem k0_pay319_lane (v330 : Vec F S1x1x16 .f32) (l : Fin 16) :
    k0_pay319 v330 (ix1 l) = v330 (ix3 (0 : Fin 1) (0 : Fin 1) l) := by
  unfold k0_pay319
  exact cast_16 v330 l

theorem k0_pay320_lane (v335 : Vec F S1x1x16 .f32) (l : Fin 16) :
    k0_pay320 v335 (ix1 l) = v335 (ix3 (0 : Fin 1) (0 : Fin 1) l) := by
  unfold k0_pay320
  exact cast_16 v335 l

theorem k0_pay321_lane (v340 : Vec F S1x1x16 .f32) (l : Fin 16) :
    k0_pay321 v340 (ix1 l) = v340 (ix3 (0 : Fin 1) (0 : Fin 1) l) := by
  unfold k0_pay321
  exact cast_16 v340 l

theorem k0_pay322_lane (v345 : Vec F S1x1x16 .f32) (l : Fin 16) :
    k0_pay322 v345 (ix1 l) = v345 (ix3 (0 : Fin 1) (0 : Fin 1) l) := by
  unfold k0_pay322
  exact cast_16 v345 l

theorem k0_pay323_lane (v350 : Vec F S1x1x16 .f32) (l : Fin 16) :
    k0_pay323 v350 (ix1 l) = v350 (ix3 (0 : Fin 1) (0 : Fin 1) l) := by
  unfold k0_pay323
  exact cast_16 v350 l

theorem k0_pay324_lane (v355 : Vec F S1x1x16 .f32) (l : Fin 16) :
    k0_pay324 v355 (ix1 l) = v355 (ix3 (0 : Fin 1) (0 : Fin 1) l) := by
  unfold k0_pay324
  exact cast_16 v355 l

theorem k0_pay325_lane (v360 : Vec F S1x1x16 .f32) (l : Fin 16) :
    k0_pay325 v360 (ix1 l) = v360 (ix3 (0 : Fin 1) (0 : Fin 1) l) := by
  unfold k0_pay325
  exact cast_16 v360 l

theorem k0_pay326_lane (v365 : Vec F S1x1x16 .f32) (l : Fin 16) :
    k0_pay326 v365 (ix1 l) = v365 (ix3 (0 : Fin 1) (0 : Fin 1) l) := by
  unfold k0_pay326
  exact cast_16 v365 l

theorem k0_pay327_lane (v370 : Vec F S1x1x16 .f32) (l : Fin 16) :
    k0_pay327 v370 (ix1 l) = v370 (ix3 (0 : Fin 1) (0 : Fin 1) l) := by
  unfold k0_pay327
  exact cast_16 v370 l

theorem k0_pay328_lane (v375 : Vec F S1x1x16 .f32) (l : Fin 16) :
    k0_pay328 v375 (ix1 l) = v375 (ix3 (0 : Fin 1) (0 : Fin 1) l) := by
  unfold k0_pay328
  exact cast_16 v375 l

theorem k0_pay329_lane (v380 : Vec F S1x1x16 .f32) (l : Fin 16) :
    k0_pay329 v380 (ix1 l) = v380 (ix3 (0 : Fin 1) (0 : Fin 1) l) := by
  unfold k0_pay329
  exact cast_16 v380 l

theorem k0_pay330_lane (v385 : Vec F S1x1x16 .f32) (l : Fin 16) :
    k0_pay330 v385 (ix1 l) = v385 (ix3 (0 : Fin 1) (0 : Fin 1) l) := by
  unfold k0_pay330
  exact cast_16 v385 l

theorem k0_pay331_lane (v390 : Vec F S1x1x16 .f32) (l : Fin 16) :
    k0_pay331 v390 (ix1 l) = v390 (ix3 (0 : Fin 1) (0 : Fin 1) l) := by
  unfold k0_pay331
  exact cast_16 v390 l

theorem k0_pay332_lane (v395 : Vec F S1x1x16 .f32) (l : Fin 16) :
    k0_pay332 v395 (ix1 l) = v395 (ix3 (0 : Fin 1) (0 : Fin 1) l) := by
  unfold k0_pay332
  exact cast_16 v395 l

theorem k0_pay333_lane (v400 : Vec F S1x1x16 .f32) (l : Fin 16) :
    k0_pay333 v400 (ix1 l) = v400 (ix3 (0 : Fin 1) (0 : Fin 1) l) := by
  unfold k0_pay333
  exact cast_16 v400 l

theorem k0_pay334_lane (v405 : Vec F S1x1x16 .f32) (l : Fin 16) :
    k0_pay334 v405 (ix1 l) = v405 (ix3 (0 : Fin 1) (0 : Fin 1) l) := by
  unfold k0_pay334
  exact cast_16 v405 l

theorem k0_pay335_lane (v410 : Vec F S1x1x16 .f32) (l : Fin 16) :
    k0_pay335 v410 (ix1 l) = v410 (ix3 (0 : Fin 1) (0 : Fin 1) l) := by
  unfold k0_pay335
  exact cast_16 v410 l

theorem k0_pay336_lane (v415 : Vec F S1x1x16 .f32) (l : Fin 16) :
    k0_pay336 v415 (ix1 l) = v415 (ix3 (0 : Fin 1) (0 : Fin 1) l) := by
  unfold k0_pay336
  exact cast_16 v415 l

theorem k0_pay337_lane (v420 : Vec F S1x1x16 .f32) (l : Fin 16) :
    k0_pay337 v420 (ix1 l) = v420 (ix3 (0 : Fin 1) (0 : Fin 1) l) := by
  unfold k0_pay337
  exact cast_16 v420 l

theorem k0_pay338_lane (v425 : Vec F S1x1x16 .f32) (l : Fin 16) :
    k0_pay338 v425 (ix1 l) = v425 (ix3 (0 : Fin 1) (0 : Fin 1) l) := by
  unfold k0_pay338
  exact cast_16 v425 l

theorem k0_pay339_lane (v430 : Vec F S1x1x16 .f32) (l : Fin 16) :
    k0_pay339 v430 (ix1 l) = v430 (ix3 (0 : Fin 1) (0 : Fin 1) l) := by
  unfold k0_pay339
  exact cast_16 v430 l

theorem k0_pay340_lane (v435 : Vec F S1x1x16 .f32) (l : Fin 16) :
    k0_pay340 v435 (ix1 l) = v435 (ix3 (0 : Fin 1) (0 : Fin 1) l) := by
  unfold k0_pay340
  exact cast_16 v435 l

theorem k0_pay341_lane (v440 : Vec F S1x1x16 .f32) (l : Fin 16) :
    k0_pay341 v440 (ix1 l) = v440 (ix3 (0 : Fin 1) (0 : Fin 1) l) := by
  unfold k0_pay341
  exact cast_16 v440 l

theorem k0_pay342_lane (v445 : Vec F S1x1x16 .f32) (l : Fin 16) :
    k0_pay342 v445 (ix1 l) = v445 (ix3 (0 : Fin 1) (0 : Fin 1) l) := by
  unfold k0_pay342
  exact cast_16 v445 l

theorem k0_pay343_lane (v450 : Vec F S1x1x16 .f32) (l : Fin 16) :
    k0_pay343 v450 (ix1 l) = v450 (ix3 (0 : Fin 1) (0 : Fin 1) l) := by
  unfold k0_pay343
  exact cast_16 v450 l

theorem k0_pay344_lane (v455 : Vec F S1x1x16 .f32) (l : Fin 16) :
    k0_pay344 v455 (ix1 l) = v455 (ix3 (0 : Fin 1) (0 : Fin 1) l) := by
  unfold k0_pay344
  exact cast_16 v455 l

theorem k0_pay345_lane (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (l : Fin 16) :
    k0_pay345 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = FloatOps.addf (FloatOps.addf (FloatOps.addf (FloatOps.addf (FloatOps.addf (v311 (ix1 l)) (v316 (ix1 l))) (FloatOps.addf (v321 (ix1 l)) (v326 (ix1 l)))) (FloatOps.addf (FloatOps.addf (v331 (ix1 l)) (v336 (ix1 l))) (FloatOps.addf (v341 (ix1 l)) (v346 (ix1 l))))) (FloatOps.addf (FloatOps.addf (FloatOps.addf (v351 (ix1 l)) (v356 (ix1 l))) (FloatOps.addf (v361 (ix1 l)) (v366 (ix1 l)))) (FloatOps.addf (FloatOps.addf (v371 (ix1 l)) (v376 (ix1 l))) (FloatOps.addf (v381 (ix1 l)) (v386 (ix1 l)))))) (FloatOps.addf (FloatOps.addf (FloatOps.addf (FloatOps.addf (v391 (ix1 l)) (v396 (ix1 l))) (FloatOps.addf (v401 (ix1 l)) (v406 (ix1 l)))) (FloatOps.addf (FloatOps.addf (v411 (ix1 l)) (v416 (ix1 l))) (FloatOps.addf (v421 (ix1 l)) (v426 (ix1 l))))) (FloatOps.addf (FloatOps.addf (FloatOps.addf (v431 (ix1 l)) (v436 (ix1 l))) (FloatOps.addf (v441 (ix1 l)) (v446 (ix1 l)))) (FloatOps.addf (FloatOps.addf (v451 (ix1 l)) (v456 (ix1 l))) (FloatOps.addf (v460 (ix3 (0 : Fin 1) (0 : Fin 1) l)) (v465 (ix3 (0 : Fin 1) (0 : Fin 1) l)))))) := by
  unfold k0_pay345
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v460 l) (cast_16 v465 l)))))

theorem k0_pay345_tree (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (w : Fin 32 → F .f32) (l : Fin 16)
    (h_v311 : v311 (ix1 l) = w 0)
    (h_v316 : v316 (ix1 l) = w 1)
    (h_v321 : v321 (ix1 l) = w 2)
    (h_v326 : v326 (ix1 l) = w 3)
    (h_v331 : v331 (ix1 l) = w 4)
    (h_v336 : v336 (ix1 l) = w 5)
    (h_v341 : v341 (ix1 l) = w 6)
    (h_v346 : v346 (ix1 l) = w 7)
    (h_v351 : v351 (ix1 l) = w 8)
    (h_v356 : v356 (ix1 l) = w 9)
    (h_v361 : v361 (ix1 l) = w 10)
    (h_v366 : v366 (ix1 l) = w 11)
    (h_v371 : v371 (ix1 l) = w 12)
    (h_v376 : v376 (ix1 l) = w 13)
    (h_v381 : v381 (ix1 l) = w 14)
    (h_v386 : v386 (ix1 l) = w 15)
    (h_v391 : v391 (ix1 l) = w 16)
    (h_v396 : v396 (ix1 l) = w 17)
    (h_v401 : v401 (ix1 l) = w 18)
    (h_v406 : v406 (ix1 l) = w 19)
    (h_v411 : v411 (ix1 l) = w 20)
    (h_v416 : v416 (ix1 l) = w 21)
    (h_v421 : v421 (ix1 l) = w 22)
    (h_v426 : v426 (ix1 l) = w 23)
    (h_v431 : v431 (ix1 l) = w 24)
    (h_v436 : v436 (ix1 l) = w 25)
    (h_v441 : v441 (ix1 l) = w 26)
    (h_v446 : v446 (ix1 l) = w 27)
    (h_v451 : v451 (ix1 l) = w 28)
    (h_v456 : v456 (ix1 l) = w 29)
    (h_v460 : v460 (ix3 (0 : Fin 1) (0 : Fin 1) l) = w 30)
    (h_v465 : v465 (ix3 (0 : Fin 1) (0 : Fin 1) l) = w 31) :
    k0_pay345 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = tree32 w := by
  unfold k0_pay345
  refine (cast_116 _ l).trans ?_
  exact congrArg₂ FloatOps.addf (congrArg₂ FloatOps.addf (congrArg₂ FloatOps.addf (congrArg₂ FloatOps.addf (congrArg₂ FloatOps.addf (h_v311) (h_v316)) (congrArg₂ FloatOps.addf (h_v321) (h_v326))) (congrArg₂ FloatOps.addf (congrArg₂ FloatOps.addf (h_v331) (h_v336)) (congrArg₂ FloatOps.addf (h_v341) (h_v346)))) (congrArg₂ FloatOps.addf (congrArg₂ FloatOps.addf (congrArg₂ FloatOps.addf (h_v351) (h_v356)) (congrArg₂ FloatOps.addf (h_v361) (h_v366))) (congrArg₂ FloatOps.addf (congrArg₂ FloatOps.addf (h_v371) (h_v376)) (congrArg₂ FloatOps.addf (h_v381) (h_v386))))) (congrArg₂ FloatOps.addf (congrArg₂ FloatOps.addf (congrArg₂ FloatOps.addf (congrArg₂ FloatOps.addf (h_v391) (h_v396)) (congrArg₂ FloatOps.addf (h_v401) (h_v406))) (congrArg₂ FloatOps.addf (congrArg₂ FloatOps.addf (h_v411) (h_v416)) (congrArg₂ FloatOps.addf (h_v421) (h_v426)))) (congrArg₂ FloatOps.addf (congrArg₂ FloatOps.addf (congrArg₂ FloatOps.addf (h_v431) (h_v436)) (congrArg₂ FloatOps.addf (h_v441) (h_v446))) (congrArg₂ FloatOps.addf (congrArg₂ FloatOps.addf (h_v451) (h_v456)) (congrArg₂ FloatOps.addf ((cast_16 v460 l).trans h_v460) ((cast_16 v465 l).trans h_v465)))))

theorem k0_pay346_lane (v506 : Vec F S1x1x16 .f32) (l : Fin 16) :
    k0_pay346 v506 (ix1 l) = v506 (ix3 (0 : Fin 1) (0 : Fin 1) l) := by
  unfold k0_pay346
  exact cast_16 v506 l

theorem k0_pay347_lane (v511 : Vec F S1x1x16 .f32) (l : Fin 16) :
    k0_pay347 v511 (ix1 l) = v511 (ix3 (0 : Fin 1) (0 : Fin 1) l) := by
  unfold k0_pay347
  exact cast_16 v511 l

theorem k0_pay348_lane (v516 : Vec F S1x1x16 .f32) (l : Fin 16) :
    k0_pay348 v516 (ix1 l) = v516 (ix3 (0 : Fin 1) (0 : Fin 1) l) := by
  unfold k0_pay348
  exact cast_16 v516 l

theorem k0_pay349_lane (v521 : Vec F S1x1x16 .f32) (l : Fin 16) :
    k0_pay349 v521 (ix1 l) = v521 (ix3 (0 : Fin 1) (0 : Fin 1) l) := by
  unfold k0_pay349
  exact cast_16 v521 l

theorem k0_pay350_lane (v526 : Vec F S1x1x16 .f32) (l : Fin 16) :
    k0_pay350 v526 (ix1 l) = v526 (ix3 (0 : Fin 1) (0 : Fin 1) l) := by
  unfold k0_pay350
  exact cast_16 v526 l

theorem k0_pay351_lane (v531 : Vec F S1x1x16 .f32) (l : Fin 16) :
    k0_pay351 v531 (ix1 l) = v531 (ix3 (0 : Fin 1) (0 : Fin 1) l) := by
  unfold k0_pay351
  exact cast_16 v531 l

theorem k0_pay352_lane (v536 : Vec F S1x1x16 .f32) (l : Fin 16) :
    k0_pay352 v536 (ix1 l) = v536 (ix3 (0 : Fin 1) (0 : Fin 1) l) := by
  unfold k0_pay352
  exact cast_16 v536 l

theorem k0_pay353_lane (v541 : Vec F S1x1x16 .f32) (l : Fin 16) :
    k0_pay353 v541 (ix1 l) = v541 (ix3 (0 : Fin 1) (0 : Fin 1) l) := by
  unfold k0_pay353
  exact cast_16 v541 l

theorem k0_pay354_lane (v546 : Vec F S1x1x16 .f32) (l : Fin 16) :
    k0_pay354 v546 (ix1 l) = v546 (ix3 (0 : Fin 1) (0 : Fin 1) l) := by
  unfold k0_pay354
  exact cast_16 v546 l

theorem k0_pay355_lane (v551 : Vec F S1x1x16 .f32) (l : Fin 16) :
    k0_pay355 v551 (ix1 l) = v551 (ix3 (0 : Fin 1) (0 : Fin 1) l) := by
  unfold k0_pay355
  exact cast_16 v551 l

theorem k0_pay356_lane (v556 : Vec F S1x1x16 .f32) (l : Fin 16) :
    k0_pay356 v556 (ix1 l) = v556 (ix3 (0 : Fin 1) (0 : Fin 1) l) := by
  unfold k0_pay356
  exact cast_16 v556 l

theorem k0_pay357_lane (v561 : Vec F S1x1x16 .f32) (l : Fin 16) :
    k0_pay357 v561 (ix1 l) = v561 (ix3 (0 : Fin 1) (0 : Fin 1) l) := by
  unfold k0_pay357
  exact cast_16 v561 l

theorem k0_pay358_lane (v566 : Vec F S1x1x16 .f32) (l : Fin 16) :
    k0_pay358 v566 (ix1 l) = v566 (ix3 (0 : Fin 1) (0 : Fin 1) l) := by
  unfold k0_pay358
  exact cast_16 v566 l

theorem k0_pay359_lane (v571 : Vec F S1x1x16 .f32) (l : Fin 16) :
    k0_pay359 v571 (ix1 l) = v571 (ix3 (0 : Fin 1) (0 : Fin 1) l) := by
  unfold k0_pay359
  exact cast_16 v571 l

theorem k0_pay360_lane (v576 : Vec F S1x1x16 .f32) (l : Fin 16) :
    k0_pay360 v576 (ix1 l) = v576 (ix3 (0 : Fin 1) (0 : Fin 1) l) := by
  unfold k0_pay360
  exact cast_16 v576 l

theorem k0_pay361_lane (v581 : Vec F S1x1x16 .f32) (l : Fin 16) :
    k0_pay361 v581 (ix1 l) = v581 (ix3 (0 : Fin 1) (0 : Fin 1) l) := by
  unfold k0_pay361
  exact cast_16 v581 l

theorem k0_pay362_lane (v586 : Vec F S1x1x16 .f32) (l : Fin 16) :
    k0_pay362 v586 (ix1 l) = v586 (ix3 (0 : Fin 1) (0 : Fin 1) l) := by
  unfold k0_pay362
  exact cast_16 v586 l

theorem k0_pay363_lane (v591 : Vec F S1x1x16 .f32) (l : Fin 16) :
    k0_pay363 v591 (ix1 l) = v591 (ix3 (0 : Fin 1) (0 : Fin 1) l) := by
  unfold k0_pay363
  exact cast_16 v591 l

theorem k0_pay364_lane (v596 : Vec F S1x1x16 .f32) (l : Fin 16) :
    k0_pay364 v596 (ix1 l) = v596 (ix3 (0 : Fin 1) (0 : Fin 1) l) := by
  unfold k0_pay364
  exact cast_16 v596 l

theorem k0_pay365_lane (v601 : Vec F S1x1x16 .f32) (l : Fin 16) :
    k0_pay365 v601 (ix1 l) = v601 (ix3 (0 : Fin 1) (0 : Fin 1) l) := by
  unfold k0_pay365
  exact cast_16 v601 l

theorem k0_pay366_lane (v606 : Vec F S1x1x16 .f32) (l : Fin 16) :
    k0_pay366 v606 (ix1 l) = v606 (ix3 (0 : Fin 1) (0 : Fin 1) l) := by
  unfold k0_pay366
  exact cast_16 v606 l

theorem k0_pay367_lane (v611 : Vec F S1x1x16 .f32) (l : Fin 16) :
    k0_pay367 v611 (ix1 l) = v611 (ix3 (0 : Fin 1) (0 : Fin 1) l) := by
  unfold k0_pay367
  exact cast_16 v611 l

theorem k0_pay368_lane (v616 : Vec F S1x1x16 .f32) (l : Fin 16) :
    k0_pay368 v616 (ix1 l) = v616 (ix3 (0 : Fin 1) (0 : Fin 1) l) := by
  unfold k0_pay368
  exact cast_16 v616 l

theorem k0_pay369_lane (v621 : Vec F S1x1x16 .f32) (l : Fin 16) :
    k0_pay369 v621 (ix1 l) = v621 (ix3 (0 : Fin 1) (0 : Fin 1) l) := by
  unfold k0_pay369
  exact cast_16 v621 l

theorem k0_pay370_lane (v626 : Vec F S1x1x16 .f32) (l : Fin 16) :
    k0_pay370 v626 (ix1 l) = v626 (ix3 (0 : Fin 1) (0 : Fin 1) l) := by
  unfold k0_pay370
  exact cast_16 v626 l

theorem k0_pay371_lane (v631 : Vec F S1x1x16 .f32) (l : Fin 16) :
    k0_pay371 v631 (ix1 l) = v631 (ix3 (0 : Fin 1) (0 : Fin 1) l) := by
  unfold k0_pay371
  exact cast_16 v631 l

theorem k0_pay372_lane (v636 : Vec F S1x1x16 .f32) (l : Fin 16) :
    k0_pay372 v636 (ix1 l) = v636 (ix3 (0 : Fin 1) (0 : Fin 1) l) := by
  unfold k0_pay372
  exact cast_16 v636 l

theorem k0_pay373_lane (v641 : Vec F S1x1x16 .f32) (l : Fin 16) :
    k0_pay373 v641 (ix1 l) = v641 (ix3 (0 : Fin 1) (0 : Fin 1) l) := by
  unfold k0_pay373
  exact cast_16 v641 l

theorem k0_pay374_lane (v646 : Vec F S1x1x16 .f32) (l : Fin 16) :
    k0_pay374 v646 (ix1 l) = v646 (ix3 (0 : Fin 1) (0 : Fin 1) l) := by
  unfold k0_pay374
  exact cast_16 v646 l

theorem k0_pay375_lane (v651 : Vec F S1x1x16 .f32) (l : Fin 16) :
    k0_pay375 v651 (ix1 l) = v651 (ix3 (0 : Fin 1) (0 : Fin 1) l) := by
  unfold k0_pay375
  exact cast_16 v651 l

theorem k0_pay376_lane (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (l : Fin 16) :
    k0_pay376 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = FloatOps.addf (FloatOps.addf (FloatOps.addf (FloatOps.addf (FloatOps.addf (v507 (ix1 l)) (v512 (ix1 l))) (FloatOps.addf (v517 (ix1 l)) (v522 (ix1 l)))) (FloatOps.addf (FloatOps.addf (v527 (ix1 l)) (v532 (ix1 l))) (FloatOps.addf (v537 (ix1 l)) (v542 (ix1 l))))) (FloatOps.addf (FloatOps.addf (FloatOps.addf (v547 (ix1 l)) (v552 (ix1 l))) (FloatOps.addf (v557 (ix1 l)) (v562 (ix1 l)))) (FloatOps.addf (FloatOps.addf (v567 (ix1 l)) (v572 (ix1 l))) (FloatOps.addf (v577 (ix1 l)) (v582 (ix1 l)))))) (FloatOps.addf (FloatOps.addf (FloatOps.addf (FloatOps.addf (v587 (ix1 l)) (v592 (ix1 l))) (FloatOps.addf (v597 (ix1 l)) (v602 (ix1 l)))) (FloatOps.addf (FloatOps.addf (v607 (ix1 l)) (v612 (ix1 l))) (FloatOps.addf (v617 (ix1 l)) (v622 (ix1 l))))) (FloatOps.addf (FloatOps.addf (FloatOps.addf (v627 (ix1 l)) (v632 (ix1 l))) (FloatOps.addf (v637 (ix1 l)) (v642 (ix1 l)))) (FloatOps.addf (FloatOps.addf (v647 (ix1 l)) (v652 (ix1 l))) (FloatOps.addf (v656 (ix3 (0 : Fin 1) (0 : Fin 1) l)) (v661 (ix3 (0 : Fin 1) (0 : Fin 1) l)))))) := by
  unfold k0_pay376
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v656 l) (cast_16 v661 l)))))

theorem k0_pay376_tree (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (w : Fin 32 → F .f32) (l : Fin 16)
    (h_v507 : v507 (ix1 l) = w 0)
    (h_v512 : v512 (ix1 l) = w 1)
    (h_v517 : v517 (ix1 l) = w 2)
    (h_v522 : v522 (ix1 l) = w 3)
    (h_v527 : v527 (ix1 l) = w 4)
    (h_v532 : v532 (ix1 l) = w 5)
    (h_v537 : v537 (ix1 l) = w 6)
    (h_v542 : v542 (ix1 l) = w 7)
    (h_v547 : v547 (ix1 l) = w 8)
    (h_v552 : v552 (ix1 l) = w 9)
    (h_v557 : v557 (ix1 l) = w 10)
    (h_v562 : v562 (ix1 l) = w 11)
    (h_v567 : v567 (ix1 l) = w 12)
    (h_v572 : v572 (ix1 l) = w 13)
    (h_v577 : v577 (ix1 l) = w 14)
    (h_v582 : v582 (ix1 l) = w 15)
    (h_v587 : v587 (ix1 l) = w 16)
    (h_v592 : v592 (ix1 l) = w 17)
    (h_v597 : v597 (ix1 l) = w 18)
    (h_v602 : v602 (ix1 l) = w 19)
    (h_v607 : v607 (ix1 l) = w 20)
    (h_v612 : v612 (ix1 l) = w 21)
    (h_v617 : v617 (ix1 l) = w 22)
    (h_v622 : v622 (ix1 l) = w 23)
    (h_v627 : v627 (ix1 l) = w 24)
    (h_v632 : v632 (ix1 l) = w 25)
    (h_v637 : v637 (ix1 l) = w 26)
    (h_v642 : v642 (ix1 l) = w 27)
    (h_v647 : v647 (ix1 l) = w 28)
    (h_v652 : v652 (ix1 l) = w 29)
    (h_v656 : v656 (ix3 (0 : Fin 1) (0 : Fin 1) l) = w 30)
    (h_v661 : v661 (ix3 (0 : Fin 1) (0 : Fin 1) l) = w 31) :
    k0_pay376 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = tree32 w := by
  unfold k0_pay376
  refine (cast_116 _ l).trans ?_
  exact congrArg₂ FloatOps.addf (congrArg₂ FloatOps.addf (congrArg₂ FloatOps.addf (congrArg₂ FloatOps.addf (congrArg₂ FloatOps.addf (h_v507) (h_v512)) (congrArg₂ FloatOps.addf (h_v517) (h_v522))) (congrArg₂ FloatOps.addf (congrArg₂ FloatOps.addf (h_v527) (h_v532)) (congrArg₂ FloatOps.addf (h_v537) (h_v542)))) (congrArg₂ FloatOps.addf (congrArg₂ FloatOps.addf (congrArg₂ FloatOps.addf (h_v547) (h_v552)) (congrArg₂ FloatOps.addf (h_v557) (h_v562))) (congrArg₂ FloatOps.addf (congrArg₂ FloatOps.addf (h_v567) (h_v572)) (congrArg₂ FloatOps.addf (h_v577) (h_v582))))) (congrArg₂ FloatOps.addf (congrArg₂ FloatOps.addf (congrArg₂ FloatOps.addf (congrArg₂ FloatOps.addf (h_v587) (h_v592)) (congrArg₂ FloatOps.addf (h_v597) (h_v602))) (congrArg₂ FloatOps.addf (congrArg₂ FloatOps.addf (h_v607) (h_v612)) (congrArg₂ FloatOps.addf (h_v617) (h_v622)))) (congrArg₂ FloatOps.addf (congrArg₂ FloatOps.addf (congrArg₂ FloatOps.addf (h_v627) (h_v632)) (congrArg₂ FloatOps.addf (h_v637) (h_v642))) (congrArg₂ FloatOps.addf (congrArg₂ FloatOps.addf (h_v647) (h_v652)) (congrArg₂ FloatOps.addf ((cast_16 v656 l).trans h_v656) ((cast_16 v661 l).trans h_v661)))))

theorem k0_pay377_lane (v702 : Vec F S1x1x16 .f32) (l : Fin 16) :
    k0_pay377 v702 (ix1 l) = v702 (ix3 (0 : Fin 1) (0 : Fin 1) l) := by
  unfold k0_pay377
  exact cast_16 v702 l

theorem k0_pay378_lane (v707 : Vec F S1x1x16 .f32) (l : Fin 16) :
    k0_pay378 v707 (ix1 l) = v707 (ix3 (0 : Fin 1) (0 : Fin 1) l) := by
  unfold k0_pay378
  exact cast_16 v707 l

theorem k0_pay379_lane (v712 : Vec F S1x1x16 .f32) (l : Fin 16) :
    k0_pay379 v712 (ix1 l) = v712 (ix3 (0 : Fin 1) (0 : Fin 1) l) := by
  unfold k0_pay379
  exact cast_16 v712 l

theorem k0_pay380_lane (v717 : Vec F S1x1x16 .f32) (l : Fin 16) :
    k0_pay380 v717 (ix1 l) = v717 (ix3 (0 : Fin 1) (0 : Fin 1) l) := by
  unfold k0_pay380
  exact cast_16 v717 l

theorem k0_pay381_lane (v722 : Vec F S1x1x16 .f32) (l : Fin 16) :
    k0_pay381 v722 (ix1 l) = v722 (ix3 (0 : Fin 1) (0 : Fin 1) l) := by
  unfold k0_pay381
  exact cast_16 v722 l

theorem k0_pay382_lane (v727 : Vec F S1x1x16 .f32) (l : Fin 16) :
    k0_pay382 v727 (ix1 l) = v727 (ix3 (0 : Fin 1) (0 : Fin 1) l) := by
  unfold k0_pay382
  exact cast_16 v727 l

theorem k0_pay383_lane (v732 : Vec F S1x1x16 .f32) (l : Fin 16) :
    k0_pay383 v732 (ix1 l) = v732 (ix3 (0 : Fin 1) (0 : Fin 1) l) := by
  unfold k0_pay383
  exact cast_16 v732 l

theorem k0_pay384_lane (v737 : Vec F S1x1x16 .f32) (l : Fin 16) :
    k0_pay384 v737 (ix1 l) = v737 (ix3 (0 : Fin 1) (0 : Fin 1) l) := by
  unfold k0_pay384
  exact cast_16 v737 l

theorem k0_pay385_lane (v742 : Vec F S1x1x16 .f32) (l : Fin 16) :
    k0_pay385 v742 (ix1 l) = v742 (ix3 (0 : Fin 1) (0 : Fin 1) l) := by
  unfold k0_pay385
  exact cast_16 v742 l

theorem k0_pay386_lane (v747 : Vec F S1x1x16 .f32) (l : Fin 16) :
    k0_pay386 v747 (ix1 l) = v747 (ix3 (0 : Fin 1) (0 : Fin 1) l) := by
  unfold k0_pay386
  exact cast_16 v747 l

theorem k0_pay387_lane (v752 : Vec F S1x1x16 .f32) (l : Fin 16) :
    k0_pay387 v752 (ix1 l) = v752 (ix3 (0 : Fin 1) (0 : Fin 1) l) := by
  unfold k0_pay387
  exact cast_16 v752 l

theorem k0_pay388_lane (v757 : Vec F S1x1x16 .f32) (l : Fin 16) :
    k0_pay388 v757 (ix1 l) = v757 (ix3 (0 : Fin 1) (0 : Fin 1) l) := by
  unfold k0_pay388
  exact cast_16 v757 l

theorem k0_pay389_lane (v762 : Vec F S1x1x16 .f32) (l : Fin 16) :
    k0_pay389 v762 (ix1 l) = v762 (ix3 (0 : Fin 1) (0 : Fin 1) l) := by
  unfold k0_pay389
  exact cast_16 v762 l

theorem k0_pay390_lane (v767 : Vec F S1x1x16 .f32) (l : Fin 16) :
    k0_pay390 v767 (ix1 l) = v767 (ix3 (0 : Fin 1) (0 : Fin 1) l) := by
  unfold k0_pay390
  exact cast_16 v767 l

theorem k0_pay391_lane (v772 : Vec F S1x1x16 .f32) (l : Fin 16) :
    k0_pay391 v772 (ix1 l) = v772 (ix3 (0 : Fin 1) (0 : Fin 1) l) := by
  unfold k0_pay391
  exact cast_16 v772 l

theorem k0_pay392_lane (v777 : Vec F S1x1x16 .f32) (l : Fin 16) :
    k0_pay392 v777 (ix1 l) = v777 (ix3 (0 : Fin 1) (0 : Fin 1) l) := by
  unfold k0_pay392
  exact cast_16 v777 l

theorem k0_pay393_lane (v782 : Vec F S1x1x16 .f32) (l : Fin 16) :
    k0_pay393 v782 (ix1 l) = v782 (ix3 (0 : Fin 1) (0 : Fin 1) l) := by
  unfold k0_pay393
  exact cast_16 v782 l

theorem k0_pay394_lane (v787 : Vec F S1x1x16 .f32) (l : Fin 16) :
    k0_pay394 v787 (ix1 l) = v787 (ix3 (0 : Fin 1) (0 : Fin 1) l) := by
  unfold k0_pay394
  exact cast_16 v787 l

theorem k0_pay395_lane (v792 : Vec F S1x1x16 .f32) (l : Fin 16) :
    k0_pay395 v792 (ix1 l) = v792 (ix3 (0 : Fin 1) (0 : Fin 1) l) := by
  unfold k0_pay395
  exact cast_16 v792 l

theorem k0_pay396_lane (v797 : Vec F S1x1x16 .f32) (l : Fin 16) :
    k0_pay396 v797 (ix1 l) = v797 (ix3 (0 : Fin 1) (0 : Fin 1) l) := by
  unfold k0_pay396
  exact cast_16 v797 l

theorem k0_pay397_lane (v802 : Vec F S1x1x16 .f32) (l : Fin 16) :
    k0_pay397 v802 (ix1 l) = v802 (ix3 (0 : Fin 1) (0 : Fin 1) l) := by
  unfold k0_pay397
  exact cast_16 v802 l

theorem k0_pay398_lane (v807 : Vec F S1x1x16 .f32) (l : Fin 16) :
    k0_pay398 v807 (ix1 l) = v807 (ix3 (0 : Fin 1) (0 : Fin 1) l) := by
  unfold k0_pay398
  exact cast_16 v807 l

theorem k0_pay399_lane (v812 : Vec F S1x1x16 .f32) (l : Fin 16) :
    k0_pay399 v812 (ix1 l) = v812 (ix3 (0 : Fin 1) (0 : Fin 1) l) := by
  unfold k0_pay399
  exact cast_16 v812 l

theorem k0_pay400_lane (v817 : Vec F S1x1x16 .f32) (l : Fin 16) :
    k0_pay400 v817 (ix1 l) = v817 (ix3 (0 : Fin 1) (0 : Fin 1) l) := by
  unfold k0_pay400
  exact cast_16 v817 l

theorem k0_pay401_lane (v822 : Vec F S1x1x16 .f32) (l : Fin 16) :
    k0_pay401 v822 (ix1 l) = v822 (ix3 (0 : Fin 1) (0 : Fin 1) l) := by
  unfold k0_pay401
  exact cast_16 v822 l

theorem k0_pay402_lane (v827 : Vec F S1x1x16 .f32) (l : Fin 16) :
    k0_pay402 v827 (ix1 l) = v827 (ix3 (0 : Fin 1) (0 : Fin 1) l) := by
  unfold k0_pay402
  exact cast_16 v827 l

theorem k0_pay403_lane (v832 : Vec F S1x1x16 .f32) (l : Fin 16) :
    k0_pay403 v832 (ix1 l) = v832 (ix3 (0 : Fin 1) (0 : Fin 1) l) := by
  unfold k0_pay403
  exact cast_16 v832 l

theorem k0_pay404_lane (v837 : Vec F S1x1x16 .f32) (l : Fin 16) :
    k0_pay404 v837 (ix1 l) = v837 (ix3 (0 : Fin 1) (0 : Fin 1) l) := by
  unfold k0_pay404
  exact cast_16 v837 l

theorem k0_pay405_lane (v842 : Vec F S1x1x16 .f32) (l : Fin 16) :
    k0_pay405 v842 (ix1 l) = v842 (ix3 (0 : Fin 1) (0 : Fin 1) l) := by
  unfold k0_pay405
  exact cast_16 v842 l

theorem k0_pay406_lane (v847 : Vec F S1x1x16 .f32) (l : Fin 16) :
    k0_pay406 v847 (ix1 l) = v847 (ix3 (0 : Fin 1) (0 : Fin 1) l) := by
  unfold k0_pay406
  exact cast_16 v847 l

theorem k0_pay407_lane (v852 : Vec F S1x1x16 .f32) (l : Fin 16) :
    k0_pay407 v852 (ix1 l) = v852 (ix3 (0 : Fin 1) (0 : Fin 1) l) := by
  unfold k0_pay407
  exact cast_16 v852 l

theorem k0_pay408_lane (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (l : Fin 16) :
    k0_pay408 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = FloatOps.addf (FloatOps.addf (FloatOps.addf (FloatOps.addf (FloatOps.addf (v703 (ix1 l)) (v708 (ix1 l))) (FloatOps.addf (v713 (ix1 l)) (v718 (ix1 l)))) (FloatOps.addf (FloatOps.addf (v723 (ix1 l)) (v728 (ix1 l))) (FloatOps.addf (v733 (ix1 l)) (v738 (ix1 l))))) (FloatOps.addf (FloatOps.addf (FloatOps.addf (v743 (ix1 l)) (v748 (ix1 l))) (FloatOps.addf (v753 (ix1 l)) (v758 (ix1 l)))) (FloatOps.addf (FloatOps.addf (v763 (ix1 l)) (v768 (ix1 l))) (FloatOps.addf (v773 (ix1 l)) (v778 (ix1 l)))))) (FloatOps.addf (FloatOps.addf (FloatOps.addf (FloatOps.addf (v783 (ix1 l)) (v788 (ix1 l))) (FloatOps.addf (v793 (ix1 l)) (v798 (ix1 l)))) (FloatOps.addf (FloatOps.addf (v803 (ix1 l)) (v808 (ix1 l))) (FloatOps.addf (v813 (ix1 l)) (v818 (ix1 l))))) (FloatOps.addf (FloatOps.addf (FloatOps.addf (v823 (ix1 l)) (v828 (ix1 l))) (FloatOps.addf (v833 (ix1 l)) (v838 (ix1 l)))) (FloatOps.addf (FloatOps.addf (v843 (ix1 l)) (v848 (ix1 l))) (FloatOps.addf (v853 (ix1 l)) (v857 (ix3 (0 : Fin 1) (0 : Fin 1) l)))))) := by
  unfold k0_pay408
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (cast_16 v857 l)))))

theorem k0_pay408_tree (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (w : Fin 32 → F .f32) (l : Fin 16)
    (h_v703 : v703 (ix1 l) = w 0)
    (h_v708 : v708 (ix1 l) = w 1)
    (h_v713 : v713 (ix1 l) = w 2)
    (h_v718 : v718 (ix1 l) = w 3)
    (h_v723 : v723 (ix1 l) = w 4)
    (h_v728 : v728 (ix1 l) = w 5)
    (h_v733 : v733 (ix1 l) = w 6)
    (h_v738 : v738 (ix1 l) = w 7)
    (h_v743 : v743 (ix1 l) = w 8)
    (h_v748 : v748 (ix1 l) = w 9)
    (h_v753 : v753 (ix1 l) = w 10)
    (h_v758 : v758 (ix1 l) = w 11)
    (h_v763 : v763 (ix1 l) = w 12)
    (h_v768 : v768 (ix1 l) = w 13)
    (h_v773 : v773 (ix1 l) = w 14)
    (h_v778 : v778 (ix1 l) = w 15)
    (h_v783 : v783 (ix1 l) = w 16)
    (h_v788 : v788 (ix1 l) = w 17)
    (h_v793 : v793 (ix1 l) = w 18)
    (h_v798 : v798 (ix1 l) = w 19)
    (h_v803 : v803 (ix1 l) = w 20)
    (h_v808 : v808 (ix1 l) = w 21)
    (h_v813 : v813 (ix1 l) = w 22)
    (h_v818 : v818 (ix1 l) = w 23)
    (h_v823 : v823 (ix1 l) = w 24)
    (h_v828 : v828 (ix1 l) = w 25)
    (h_v833 : v833 (ix1 l) = w 26)
    (h_v838 : v838 (ix1 l) = w 27)
    (h_v843 : v843 (ix1 l) = w 28)
    (h_v848 : v848 (ix1 l) = w 29)
    (h_v853 : v853 (ix1 l) = w 30)
    (h_v857 : v857 (ix3 (0 : Fin 1) (0 : Fin 1) l) = w 31) :
    k0_pay408 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = tree32 w := by
  unfold k0_pay408
  refine (cast_116 _ l).trans ?_
  exact congrArg₂ FloatOps.addf (congrArg₂ FloatOps.addf (congrArg₂ FloatOps.addf (congrArg₂ FloatOps.addf (congrArg₂ FloatOps.addf (h_v703) (h_v708)) (congrArg₂ FloatOps.addf (h_v713) (h_v718))) (congrArg₂ FloatOps.addf (congrArg₂ FloatOps.addf (h_v723) (h_v728)) (congrArg₂ FloatOps.addf (h_v733) (h_v738)))) (congrArg₂ FloatOps.addf (congrArg₂ FloatOps.addf (congrArg₂ FloatOps.addf (h_v743) (h_v748)) (congrArg₂ FloatOps.addf (h_v753) (h_v758))) (congrArg₂ FloatOps.addf (congrArg₂ FloatOps.addf (h_v763) (h_v768)) (congrArg₂ FloatOps.addf (h_v773) (h_v778))))) (congrArg₂ FloatOps.addf (congrArg₂ FloatOps.addf (congrArg₂ FloatOps.addf (congrArg₂ FloatOps.addf (h_v783) (h_v788)) (congrArg₂ FloatOps.addf (h_v793) (h_v798))) (congrArg₂ FloatOps.addf (congrArg₂ FloatOps.addf (h_v803) (h_v808)) (congrArg₂ FloatOps.addf (h_v813) (h_v818)))) (congrArg₂ FloatOps.addf (congrArg₂ FloatOps.addf (congrArg₂ FloatOps.addf (h_v823) (h_v828)) (congrArg₂ FloatOps.addf (h_v833) (h_v838))) (congrArg₂ FloatOps.addf (congrArg₂ FloatOps.addf (h_v843) (h_v848)) (congrArg₂ FloatOps.addf (h_v853) ((cast_16 v857 l).trans h_v857)))))

theorem k0_pay409_lane (v898 : Vec F S1x1x16 .f32) (l : Fin 16) :
    k0_pay409 v898 (ix1 l) = v898 (ix3 (0 : Fin 1) (0 : Fin 1) l) := by
  unfold k0_pay409
  exact cast_16 v898 l

theorem k0_pay410_lane (v903 : Vec F S1x1x16 .f32) (l : Fin 16) :
    k0_pay410 v903 (ix1 l) = v903 (ix3 (0 : Fin 1) (0 : Fin 1) l) := by
  unfold k0_pay410
  exact cast_16 v903 l

theorem k0_pay411_lane (v908 : Vec F S1x1x16 .f32) (l : Fin 16) :
    k0_pay411 v908 (ix1 l) = v908 (ix3 (0 : Fin 1) (0 : Fin 1) l) := by
  unfold k0_pay411
  exact cast_16 v908 l

theorem k0_pay412_lane (v913 : Vec F S1x1x16 .f32) (l : Fin 16) :
    k0_pay412 v913 (ix1 l) = v913 (ix3 (0 : Fin 1) (0 : Fin 1) l) := by
  unfold k0_pay412
  exact cast_16 v913 l

theorem k0_pay413_lane (v918 : Vec F S1x1x16 .f32) (l : Fin 16) :
    k0_pay413 v918 (ix1 l) = v918 (ix3 (0 : Fin 1) (0 : Fin 1) l) := by
  unfold k0_pay413
  exact cast_16 v918 l

theorem k0_pay414_lane (v923 : Vec F S1x1x16 .f32) (l : Fin 16) :
    k0_pay414 v923 (ix1 l) = v923 (ix3 (0 : Fin 1) (0 : Fin 1) l) := by
  unfold k0_pay414
  exact cast_16 v923 l

theorem k0_pay415_lane (v928 : Vec F S1x1x16 .f32) (l : Fin 16) :
    k0_pay415 v928 (ix1 l) = v928 (ix3 (0 : Fin 1) (0 : Fin 1) l) := by
  unfold k0_pay415
  exact cast_16 v928 l

theorem k0_pay416_lane (v933 : Vec F S1x1x16 .f32) (l : Fin 16) :
    k0_pay416 v933 (ix1 l) = v933 (ix3 (0 : Fin 1) (0 : Fin 1) l) := by
  unfold k0_pay416
  exact cast_16 v933 l

theorem k0_pay417_lane (v938 : Vec F S1x1x16 .f32) (l : Fin 16) :
    k0_pay417 v938 (ix1 l) = v938 (ix3 (0 : Fin 1) (0 : Fin 1) l) := by
  unfold k0_pay417
  exact cast_16 v938 l

theorem k0_pay418_lane (v943 : Vec F S1x1x16 .f32) (l : Fin 16) :
    k0_pay418 v943 (ix1 l) = v943 (ix3 (0 : Fin 1) (0 : Fin 1) l) := by
  unfold k0_pay418
  exact cast_16 v943 l

theorem k0_pay419_lane (v948 : Vec F S1x1x16 .f32) (l : Fin 16) :
    k0_pay419 v948 (ix1 l) = v948 (ix3 (0 : Fin 1) (0 : Fin 1) l) := by
  unfold k0_pay419
  exact cast_16 v948 l

theorem k0_pay420_lane (v953 : Vec F S1x1x16 .f32) (l : Fin 16) :
    k0_pay420 v953 (ix1 l) = v953 (ix3 (0 : Fin 1) (0 : Fin 1) l) := by
  unfold k0_pay420
  exact cast_16 v953 l

theorem k0_pay421_lane (v958 : Vec F S1x1x16 .f32) (l : Fin 16) :
    k0_pay421 v958 (ix1 l) = v958 (ix3 (0 : Fin 1) (0 : Fin 1) l) := by
  unfold k0_pay421
  exact cast_16 v958 l

theorem k0_pay422_lane (v963 : Vec F S1x1x16 .f32) (l : Fin 16) :
    k0_pay422 v963 (ix1 l) = v963 (ix3 (0 : Fin 1) (0 : Fin 1) l) := by
  unfold k0_pay422
  exact cast_16 v963 l

theorem k0_pay423_lane (v968 : Vec F S1x1x16 .f32) (l : Fin 16) :
    k0_pay423 v968 (ix1 l) = v968 (ix3 (0 : Fin 1) (0 : Fin 1) l) := by
  unfold k0_pay423
  exact cast_16 v968 l

theorem k0_pay424_lane (v973 : Vec F S1x1x16 .f32) (l : Fin 16) :
    k0_pay424 v973 (ix1 l) = v973 (ix3 (0 : Fin 1) (0 : Fin 1) l) := by
  unfold k0_pay424
  exact cast_16 v973 l

theorem k0_pay425_lane (v978 : Vec F S1x1x16 .f32) (l : Fin 16) :
    k0_pay425 v978 (ix1 l) = v978 (ix3 (0 : Fin 1) (0 : Fin 1) l) := by
  unfold k0_pay425
  exact cast_16 v978 l

theorem k0_pay426_lane (v983 : Vec F S1x1x16 .f32) (l : Fin 16) :
    k0_pay426 v983 (ix1 l) = v983 (ix3 (0 : Fin 1) (0 : Fin 1) l) := by
  unfold k0_pay426
  exact cast_16 v983 l

theorem k0_pay427_lane (v988 : Vec F S1x1x16 .f32) (l : Fin 16) :
    k0_pay427 v988 (ix1 l) = v988 (ix3 (0 : Fin 1) (0 : Fin 1) l) := by
  unfold k0_pay427
  exact cast_16 v988 l

theorem k0_pay428_lane (v993 : Vec F S1x1x16 .f32) (l : Fin 16) :
    k0_pay428 v993 (ix1 l) = v993 (ix3 (0 : Fin 1) (0 : Fin 1) l) := by
  unfold k0_pay428
  exact cast_16 v993 l

theorem k0_pay429_lane (v998 : Vec F S1x1x16 .f32) (l : Fin 16) :
    k0_pay429 v998 (ix1 l) = v998 (ix3 (0 : Fin 1) (0 : Fin 1) l) := by
  unfold k0_pay429
  exact cast_16 v998 l

theorem k0_pay430_lane (v1003 : Vec F S1x1x16 .f32) (l : Fin 16) :
    k0_pay430 v1003 (ix1 l) = v1003 (ix3 (0 : Fin 1) (0 : Fin 1) l) := by
  unfold k0_pay430
  exact cast_16 v1003 l

theorem k0_pay431_lane (v1008 : Vec F S1x1x16 .f32) (l : Fin 16) :
    k0_pay431 v1008 (ix1 l) = v1008 (ix3 (0 : Fin 1) (0 : Fin 1) l) := by
  unfold k0_pay431
  exact cast_16 v1008 l

theorem k0_pay432_lane (v1013 : Vec F S1x1x16 .f32) (l : Fin 16) :
    k0_pay432 v1013 (ix1 l) = v1013 (ix3 (0 : Fin 1) (0 : Fin 1) l) := by
  unfold k0_pay432
  exact cast_16 v1013 l

theorem k0_pay433_lane (v1018 : Vec F S1x1x16 .f32) (l : Fin 16) :
    k0_pay433 v1018 (ix1 l) = v1018 (ix3 (0 : Fin 1) (0 : Fin 1) l) := by
  unfold k0_pay433
  exact cast_16 v1018 l

theorem k0_pay434_lane (v1023 : Vec F S1x1x16 .f32) (l : Fin 16) :
    k0_pay434 v1023 (ix1 l) = v1023 (ix3 (0 : Fin 1) (0 : Fin 1) l) := by
  unfold k0_pay434
  exact cast_16 v1023 l

theorem k0_pay435_lane (v1028 : Vec F S1x1x16 .f32) (l : Fin 16) :
    k0_pay435 v1028 (ix1 l) = v1028 (ix3 (0 : Fin 1) (0 : Fin 1) l) := by
  unfold k0_pay435
  exact cast_16 v1028 l

theorem k0_pay436_lane (v1033 : Vec F S1x1x16 .f32) (l : Fin 16) :
    k0_pay436 v1033 (ix1 l) = v1033 (ix3 (0 : Fin 1) (0 : Fin 1) l) := by
  unfold k0_pay436
  exact cast_16 v1033 l

theorem k0_pay437_lane (v1038 : Vec F S1x1x16 .f32) (l : Fin 16) :
    k0_pay437 v1038 (ix1 l) = v1038 (ix3 (0 : Fin 1) (0 : Fin 1) l) := by
  unfold k0_pay437
  exact cast_16 v1038 l

theorem k0_pay438_lane (v1043 : Vec F S1x1x16 .f32) (l : Fin 16) :
    k0_pay438 v1043 (ix1 l) = v1043 (ix3 (0 : Fin 1) (0 : Fin 1) l) := by
  unfold k0_pay438
  exact cast_16 v1043 l

theorem k0_pay439_lane (v1048 : Vec F S1x1x16 .f32) (l : Fin 16) :
    k0_pay439 v1048 (ix1 l) = v1048 (ix3 (0 : Fin 1) (0 : Fin 1) l) := by
  unfold k0_pay439
  exact cast_16 v1048 l

theorem k0_pay440_lane (v1053 : Vec F S1x1x16 .f32) (l : Fin 16) :
    k0_pay440 v1053 (ix1 l) = v1053 (ix3 (0 : Fin 1) (0 : Fin 1) l) := by
  unfold k0_pay440
  exact cast_16 v1053 l

theorem k0_pay441_lane (v899 : FVec F S16 .f32) (v904 : FVec F S16 .f32) (l : Fin 16) :
    k0_pay441 v899 v904 (ix1 l) = FloatOps.addf (v899 (ix1 l)) (v904 (ix1 l)) := by
  unfold k0_pay441
  exact congrArg₂ FloatOps.addf (rfl) (rfl)

theorem k0_pay442_lane (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (l : Fin 16) :
    k0_pay442 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = FloatOps.addf (FloatOps.addf (FloatOps.addf (FloatOps.addf (v1055 (ix1 l)) (FloatOps.addf (v909 (ix1 l)) (v914 (ix1 l)))) (FloatOps.addf (FloatOps.addf (v919 (ix1 l)) (v924 (ix1 l))) (FloatOps.addf (v929 (ix1 l)) (v934 (ix1 l))))) (FloatOps.addf (FloatOps.addf (FloatOps.addf (v939 (ix1 l)) (v944 (ix1 l))) (FloatOps.addf (v949 (ix1 l)) (v954 (ix1 l)))) (FloatOps.addf (FloatOps.addf (v959 (ix1 l)) (v964 (ix1 l))) (FloatOps.addf (v969 (ix1 l)) (v974 (ix1 l)))))) (FloatOps.addf (FloatOps.addf (FloatOps.addf (FloatOps.addf (v979 (ix1 l)) (v984 (ix1 l))) (FloatOps.addf (v989 (ix1 l)) (v994 (ix1 l)))) (FloatOps.addf (FloatOps.addf (v999 (ix1 l)) (v1004 (ix1 l))) (FloatOps.addf (v1009 (ix1 l)) (v1014 (ix1 l))))) (FloatOps.addf (FloatOps.addf (FloatOps.addf (v1019 (ix1 l)) (v1024 (ix1 l))) (FloatOps.addf (v1029 (ix1 l)) (v1034 (ix1 l)))) (FloatOps.addf (FloatOps.addf (v1039 (ix1 l)) (v1044 (ix1 l))) (FloatOps.addf (v1049 (ix1 l)) (v1054 (ix1 l)))))) := by
  unfold k0_pay442
  refine (cast_116 _ l).trans ?_
  exact congrArg₂ FloatOps.addf (congrArg₂ FloatOps.addf (congrArg₂ FloatOps.addf (congrArg₂ FloatOps.addf (rfl) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k0_pay442_tree (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (w : Fin 32 → F .f32) (l : Fin 16)
    (h_v1055 : v1055 (ix1 l) = FloatOps.addf (w 0) (w 1))
    (h_v909 : v909 (ix1 l) = w 2)
    (h_v914 : v914 (ix1 l) = w 3)
    (h_v919 : v919 (ix1 l) = w 4)
    (h_v924 : v924 (ix1 l) = w 5)
    (h_v929 : v929 (ix1 l) = w 6)
    (h_v934 : v934 (ix1 l) = w 7)
    (h_v939 : v939 (ix1 l) = w 8)
    (h_v944 : v944 (ix1 l) = w 9)
    (h_v949 : v949 (ix1 l) = w 10)
    (h_v954 : v954 (ix1 l) = w 11)
    (h_v959 : v959 (ix1 l) = w 12)
    (h_v964 : v964 (ix1 l) = w 13)
    (h_v969 : v969 (ix1 l) = w 14)
    (h_v974 : v974 (ix1 l) = w 15)
    (h_v979 : v979 (ix1 l) = w 16)
    (h_v984 : v984 (ix1 l) = w 17)
    (h_v989 : v989 (ix1 l) = w 18)
    (h_v994 : v994 (ix1 l) = w 19)
    (h_v999 : v999 (ix1 l) = w 20)
    (h_v1004 : v1004 (ix1 l) = w 21)
    (h_v1009 : v1009 (ix1 l) = w 22)
    (h_v1014 : v1014 (ix1 l) = w 23)
    (h_v1019 : v1019 (ix1 l) = w 24)
    (h_v1024 : v1024 (ix1 l) = w 25)
    (h_v1029 : v1029 (ix1 l) = w 26)
    (h_v1034 : v1034 (ix1 l) = w 27)
    (h_v1039 : v1039 (ix1 l) = w 28)
    (h_v1044 : v1044 (ix1 l) = w 29)
    (h_v1049 : v1049 (ix1 l) = w 30)
    (h_v1054 : v1054 (ix1 l) = w 31) :
    k0_pay442 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = tree32 w := by
  unfold k0_pay442
  refine (cast_116 _ l).trans ?_
  exact congrArg₂ FloatOps.addf (congrArg₂ FloatOps.addf (congrArg₂ FloatOps.addf (congrArg₂ FloatOps.addf (h_v1055) (congrArg₂ FloatOps.addf (h_v909) (h_v914))) (congrArg₂ FloatOps.addf (congrArg₂ FloatOps.addf (h_v919) (h_v924)) (congrArg₂ FloatOps.addf (h_v929) (h_v934)))) (congrArg₂ FloatOps.addf (congrArg₂ FloatOps.addf (congrArg₂ FloatOps.addf (h_v939) (h_v944)) (congrArg₂ FloatOps.addf (h_v949) (h_v954))) (congrArg₂ FloatOps.addf (congrArg₂ FloatOps.addf (h_v959) (h_v964)) (congrArg₂ FloatOps.addf (h_v969) (h_v974))))) (congrArg₂ FloatOps.addf (congrArg₂ FloatOps.addf (congrArg₂ FloatOps.addf (congrArg₂ FloatOps.addf (h_v979) (h_v984)) (congrArg₂ FloatOps.addf (h_v989) (h_v994))) (congrArg₂ FloatOps.addf (congrArg₂ FloatOps.addf (h_v999) (h_v1004)) (congrArg₂ FloatOps.addf (h_v1009) (h_v1014)))) (congrArg₂ FloatOps.addf (congrArg₂ FloatOps.addf (congrArg₂ FloatOps.addf (h_v1019) (h_v1024)) (congrArg₂ FloatOps.addf (h_v1029) (h_v1034))) (congrArg₂ FloatOps.addf (congrArg₂ FloatOps.addf (h_v1039) (h_v1044)) (congrArg₂ FloatOps.addf (h_v1049) (h_v1054)))))

theorem k0_pay443_lane (v1094 : Vec F S1x1x16 .f32) (l : Fin 16) :
    k0_pay443 v1094 (ix1 l) = v1094 (ix3 (0 : Fin 1) (0 : Fin 1) l) := by
  unfold k0_pay443
  exact cast_16 v1094 l

theorem k0_pay444_lane (v1099 : Vec F S1x1x16 .f32) (l : Fin 16) :
    k0_pay444 v1099 (ix1 l) = v1099 (ix3 (0 : Fin 1) (0 : Fin 1) l) := by
  unfold k0_pay444
  exact cast_16 v1099 l

theorem k0_pay445_lane (v1104 : Vec F S1x1x16 .f32) (l : Fin 16) :
    k0_pay445 v1104 (ix1 l) = v1104 (ix3 (0 : Fin 1) (0 : Fin 1) l) := by
  unfold k0_pay445
  exact cast_16 v1104 l

theorem k0_pay446_lane (v1109 : Vec F S1x1x16 .f32) (l : Fin 16) :
    k0_pay446 v1109 (ix1 l) = v1109 (ix3 (0 : Fin 1) (0 : Fin 1) l) := by
  unfold k0_pay446
  exact cast_16 v1109 l

theorem k0_pay447_lane (v1114 : Vec F S1x1x16 .f32) (l : Fin 16) :
    k0_pay447 v1114 (ix1 l) = v1114 (ix3 (0 : Fin 1) (0 : Fin 1) l) := by
  unfold k0_pay447
  exact cast_16 v1114 l

theorem k0_pay448_lane (v1119 : Vec F S1x1x16 .f32) (l : Fin 16) :
    k0_pay448 v1119 (ix1 l) = v1119 (ix3 (0 : Fin 1) (0 : Fin 1) l) := by
  unfold k0_pay448
  exact cast_16 v1119 l

theorem k0_pay449_lane (v1124 : Vec F S1x1x16 .f32) (l : Fin 16) :
    k0_pay449 v1124 (ix1 l) = v1124 (ix3 (0 : Fin 1) (0 : Fin 1) l) := by
  unfold k0_pay449
  exact cast_16 v1124 l

theorem k0_pay450_lane (v1129 : Vec F S1x1x16 .f32) (l : Fin 16) :
    k0_pay450 v1129 (ix1 l) = v1129 (ix3 (0 : Fin 1) (0 : Fin 1) l) := by
  unfold k0_pay450
  exact cast_16 v1129 l

theorem k0_pay451_lane (v1134 : Vec F S1x1x16 .f32) (l : Fin 16) :
    k0_pay451 v1134 (ix1 l) = v1134 (ix3 (0 : Fin 1) (0 : Fin 1) l) := by
  unfold k0_pay451
  exact cast_16 v1134 l

theorem k0_pay452_lane (v1139 : Vec F S1x1x16 .f32) (l : Fin 16) :
    k0_pay452 v1139 (ix1 l) = v1139 (ix3 (0 : Fin 1) (0 : Fin 1) l) := by
  unfold k0_pay452
  exact cast_16 v1139 l

theorem k0_pay453_lane (v1144 : Vec F S1x1x16 .f32) (l : Fin 16) :
    k0_pay453 v1144 (ix1 l) = v1144 (ix3 (0 : Fin 1) (0 : Fin 1) l) := by
  unfold k0_pay453
  exact cast_16 v1144 l

theorem k0_pay454_lane (v1149 : Vec F S1x1x16 .f32) (l : Fin 16) :
    k0_pay454 v1149 (ix1 l) = v1149 (ix3 (0 : Fin 1) (0 : Fin 1) l) := by
  unfold k0_pay454
  exact cast_16 v1149 l

theorem k0_pay455_lane (v1154 : Vec F S1x1x16 .f32) (l : Fin 16) :
    k0_pay455 v1154 (ix1 l) = v1154 (ix3 (0 : Fin 1) (0 : Fin 1) l) := by
  unfold k0_pay455
  exact cast_16 v1154 l

theorem k0_pay456_lane (v1159 : Vec F S1x1x16 .f32) (l : Fin 16) :
    k0_pay456 v1159 (ix1 l) = v1159 (ix3 (0 : Fin 1) (0 : Fin 1) l) := by
  unfold k0_pay456
  exact cast_16 v1159 l

theorem k0_pay457_lane (v1164 : Vec F S1x1x16 .f32) (l : Fin 16) :
    k0_pay457 v1164 (ix1 l) = v1164 (ix3 (0 : Fin 1) (0 : Fin 1) l) := by
  unfold k0_pay457
  exact cast_16 v1164 l

theorem k0_pay458_lane (v1169 : Vec F S1x1x16 .f32) (l : Fin 16) :
    k0_pay458 v1169 (ix1 l) = v1169 (ix3 (0 : Fin 1) (0 : Fin 1) l) := by
  unfold k0_pay458
  exact cast_16 v1169 l

theorem k0_pay459_lane (v1174 : Vec F S1x1x16 .f32) (l : Fin 16) :
    k0_pay459 v1174 (ix1 l) = v1174 (ix3 (0 : Fin 1) (0 : Fin 1) l) := by
  unfold k0_pay459
  exact cast_16 v1174 l

theorem k0_pay460_lane (v1179 : Vec F S1x1x16 .f32) (l : Fin 16) :
    k0_pay460 v1179 (ix1 l) = v1179 (ix3 (0 : Fin 1) (0 : Fin 1) l) := by
  unfold k0_pay460
  exact cast_16 v1179 l

theorem k0_pay461_lane (v1184 : Vec F S1x1x16 .f32) (l : Fin 16) :
    k0_pay461 v1184 (ix1 l) = v1184 (ix3 (0 : Fin 1) (0 : Fin 1) l) := by
  unfold k0_pay461
  exact cast_16 v1184 l

theorem k0_pay462_lane (v1189 : Vec F S1x1x16 .f32) (l : Fin 16) :
    k0_pay462 v1189 (ix1 l) = v1189 (ix3 (0 : Fin 1) (0 : Fin 1) l) := by
  unfold k0_pay462
  exact cast_16 v1189 l

theorem k0_pay463_lane (v1194 : Vec F S1x1x16 .f32) (l : Fin 16) :
    k0_pay463 v1194 (ix1 l) = v1194 (ix3 (0 : Fin 1) (0 : Fin 1) l) := by
  unfold k0_pay463
  exact cast_16 v1194 l

theorem k0_pay464_lane (v1199 : Vec F S1x1x16 .f32) (l : Fin 16) :
    k0_pay464 v1199 (ix1 l) = v1199 (ix3 (0 : Fin 1) (0 : Fin 1) l) := by
  unfold k0_pay464
  exact cast_16 v1199 l

theorem k0_pay465_lane (v1204 : Vec F S1x1x16 .f32) (l : Fin 16) :
    k0_pay465 v1204 (ix1 l) = v1204 (ix3 (0 : Fin 1) (0 : Fin 1) l) := by
  unfold k0_pay465
  exact cast_16 v1204 l

theorem k0_pay466_lane (v1209 : Vec F S1x1x16 .f32) (l : Fin 16) :
    k0_pay466 v1209 (ix1 l) = v1209 (ix3 (0 : Fin 1) (0 : Fin 1) l) := by
  unfold k0_pay466
  exact cast_16 v1209 l

theorem k0_pay467_lane (v1214 : Vec F S1x1x16 .f32) (l : Fin 16) :
    k0_pay467 v1214 (ix1 l) = v1214 (ix3 (0 : Fin 1) (0 : Fin 1) l) := by
  unfold k0_pay467
  exact cast_16 v1214 l

theorem k0_pay468_lane (v1219 : Vec F S1x1x16 .f32) (l : Fin 16) :
    k0_pay468 v1219 (ix1 l) = v1219 (ix3 (0 : Fin 1) (0 : Fin 1) l) := by
  unfold k0_pay468
  exact cast_16 v1219 l

theorem k0_pay469_lane (v1224 : Vec F S1x1x16 .f32) (l : Fin 16) :
    k0_pay469 v1224 (ix1 l) = v1224 (ix3 (0 : Fin 1) (0 : Fin 1) l) := by
  unfold k0_pay469
  exact cast_16 v1224 l

theorem k0_pay470_lane (v1229 : Vec F S1x1x16 .f32) (l : Fin 16) :
    k0_pay470 v1229 (ix1 l) = v1229 (ix3 (0 : Fin 1) (0 : Fin 1) l) := by
  unfold k0_pay470
  exact cast_16 v1229 l

theorem k0_pay471_lane (v1234 : Vec F S1x1x16 .f32) (l : Fin 16) :
    k0_pay471 v1234 (ix1 l) = v1234 (ix3 (0 : Fin 1) (0 : Fin 1) l) := by
  unfold k0_pay471
  exact cast_16 v1234 l

theorem k0_pay472_lane (v1239 : Vec F S1x1x16 .f32) (l : Fin 16) :
    k0_pay472 v1239 (ix1 l) = v1239 (ix3 (0 : Fin 1) (0 : Fin 1) l) := by
  unfold k0_pay472
  exact cast_16 v1239 l

theorem k0_pay473_lane (v1244 : Vec F S1x1x16 .f32) (l : Fin 16) :
    k0_pay473 v1244 (ix1 l) = v1244 (ix3 (0 : Fin 1) (0 : Fin 1) l) := by
  unfold k0_pay473
  exact cast_16 v1244 l

theorem k0_pay474_lane (v1249 : Vec F S1x1x16 .f32) (l : Fin 16) :
    k0_pay474 v1249 (ix1 l) = v1249 (ix3 (0 : Fin 1) (0 : Fin 1) l) := by
  unfold k0_pay474
  exact cast_16 v1249 l

theorem k0_pay475_lane (v1095 : FVec F S16 .f32) (v1100 : FVec F S16 .f32) (l : Fin 16) :
    k0_pay475 v1095 v1100 (ix1 l) = FloatOps.addf (v1095 (ix1 l)) (v1100 (ix1 l)) := by
  unfold k0_pay475
  exact congrArg₂ FloatOps.addf (rfl) (rfl)

theorem k0_pay476_lane (v1105 : FVec F S16 .f32) (v1110 : FVec F S16 .f32) (l : Fin 16) :
    k0_pay476 v1105 v1110 (ix1 l) = FloatOps.addf (v1105 (ix1 l)) (v1110 (ix1 l)) := by
  unfold k0_pay476
  exact congrArg₂ FloatOps.addf (rfl) (rfl)

theorem k0_pay477_lane (v1115 : FVec F S16 .f32) (v1120 : FVec F S16 .f32) (l : Fin 16) :
    k0_pay477 v1115 v1120 (ix1 l) = FloatOps.addf (v1115 (ix1 l)) (v1120 (ix1 l)) := by
  unfold k0_pay477
  exact congrArg₂ FloatOps.addf (rfl) (rfl)

theorem k0_pay478_lane (v1125 : FVec F S16 .f32) (v1130 : FVec F S16 .f32) (l : Fin 16) :
    k0_pay478 v1125 v1130 (ix1 l) = FloatOps.addf (v1125 (ix1 l)) (v1130 (ix1 l)) := by
  unfold k0_pay478
  exact congrArg₂ FloatOps.addf (rfl) (rfl)

theorem k0_pay479_lane (v1135 : FVec F S16 .f32) (v1140 : FVec F S16 .f32) (l : Fin 16) :
    k0_pay479 v1135 v1140 (ix1 l) = FloatOps.addf (v1135 (ix1 l)) (v1140 (ix1 l)) := by
  unfold k0_pay479
  exact congrArg₂ FloatOps.addf (rfl) (rfl)

theorem k0_pay480_lane (v1145 : FVec F S16 .f32) (v1150 : FVec F S16 .f32) (l : Fin 16) :
    k0_pay480 v1145 v1150 (ix1 l) = FloatOps.addf (v1145 (ix1 l)) (v1150 (ix1 l)) := by
  unfold k0_pay480
  exact congrArg₂ FloatOps.addf (rfl) (rfl)

theorem k0_pay481_lane (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (l : Fin 16) :
    k0_pay481 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = FloatOps.addf (FloatOps.addf (FloatOps.addf (FloatOps.addf (v1251 (ix1 l)) (v1252 (ix1 l))) (FloatOps.addf (v1253 (ix1 l)) (v1254 (ix1 l)))) (FloatOps.addf (FloatOps.addf (v1255 (ix1 l)) (v1256 (ix1 l))) (FloatOps.addf (FloatOps.addf (v1155 (ix1 l)) (v1160 (ix1 l))) (FloatOps.addf (v1165 (ix1 l)) (v1170 (ix1 l)))))) (FloatOps.addf (FloatOps.addf (FloatOps.addf (FloatOps.addf (v1175 (ix1 l)) (v1180 (ix1 l))) (FloatOps.addf (v1185 (ix1 l)) (v1190 (ix1 l)))) (FloatOps.addf (FloatOps.addf (v1195 (ix1 l)) (v1200 (ix1 l))) (FloatOps.addf (v1205 (ix1 l)) (v1210 (ix1 l))))) (FloatOps.addf (FloatOps.addf (FloatOps.addf (v1215 (ix1 l)) (v1220 (ix1 l))) (FloatOps.addf (v1225 (ix1 l)) (v1230 (ix1 l)))) (FloatOps.addf (FloatOps.addf (v1235 (ix1 l)) (v1240 (ix1 l))) (FloatOps.addf (v1245 (ix1 l)) (v1250 (ix1 l)))))) := by
  unfold k0_pay481
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k0_pay481_tree (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (w : Fin 32 → F .f32) (l : Fin 16)
    (h_v1251 : v1251 (ix1 l) = FloatOps.addf (w 0) (w 1))
    (h_v1252 : v1252 (ix1 l) = FloatOps.addf (w 2) (w 3))
    (h_v1253 : v1253 (ix1 l) = FloatOps.addf (w 4) (w 5))
    (h_v1254 : v1254 (ix1 l) = FloatOps.addf (w 6) (w 7))
    (h_v1255 : v1255 (ix1 l) = FloatOps.addf (w 8) (w 9))
    (h_v1256 : v1256 (ix1 l) = FloatOps.addf (w 10) (w 11))
    (h_v1155 : v1155 (ix1 l) = w 12)
    (h_v1160 : v1160 (ix1 l) = w 13)
    (h_v1165 : v1165 (ix1 l) = w 14)
    (h_v1170 : v1170 (ix1 l) = w 15)
    (h_v1175 : v1175 (ix1 l) = w 16)
    (h_v1180 : v1180 (ix1 l) = w 17)
    (h_v1185 : v1185 (ix1 l) = w 18)
    (h_v1190 : v1190 (ix1 l) = w 19)
    (h_v1195 : v1195 (ix1 l) = w 20)
    (h_v1200 : v1200 (ix1 l) = w 21)
    (h_v1205 : v1205 (ix1 l) = w 22)
    (h_v1210 : v1210 (ix1 l) = w 23)
    (h_v1215 : v1215 (ix1 l) = w 24)
    (h_v1220 : v1220 (ix1 l) = w 25)
    (h_v1225 : v1225 (ix1 l) = w 26)
    (h_v1230 : v1230 (ix1 l) = w 27)
    (h_v1235 : v1235 (ix1 l) = w 28)
    (h_v1240 : v1240 (ix1 l) = w 29)
    (h_v1245 : v1245 (ix1 l) = w 30)
    (h_v1250 : v1250 (ix1 l) = w 31) :
    k0_pay481 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = tree32 w := by
  unfold k0_pay481
  refine (cast_116 _ l).trans ?_
  exact congrArg₂ FloatOps.addf (congrArg₂ FloatOps.addf (congrArg₂ FloatOps.addf (congrArg₂ FloatOps.addf (h_v1251) (h_v1252)) (congrArg₂ FloatOps.addf (h_v1253) (h_v1254))) (congrArg₂ FloatOps.addf (congrArg₂ FloatOps.addf (h_v1255) (h_v1256)) (congrArg₂ FloatOps.addf (congrArg₂ FloatOps.addf (h_v1155) (h_v1160)) (congrArg₂ FloatOps.addf (h_v1165) (h_v1170))))) (congrArg₂ FloatOps.addf (congrArg₂ FloatOps.addf (congrArg₂ FloatOps.addf (congrArg₂ FloatOps.addf (h_v1175) (h_v1180)) (congrArg₂ FloatOps.addf (h_v1185) (h_v1190))) (congrArg₂ FloatOps.addf (congrArg₂ FloatOps.addf (h_v1195) (h_v1200)) (congrArg₂ FloatOps.addf (h_v1205) (h_v1210)))) (congrArg₂ FloatOps.addf (congrArg₂ FloatOps.addf (congrArg₂ FloatOps.addf (h_v1215) (h_v1220)) (congrArg₂ FloatOps.addf (h_v1225) (h_v1230))) (congrArg₂ FloatOps.addf (congrArg₂ FloatOps.addf (h_v1235) (h_v1240)) (congrArg₂ FloatOps.addf (h_v1245) (h_v1250)))))

theorem k0_pay482_lane (v1290 : Vec F S1x1x16 .f32) (l : Fin 16) :
    k0_pay482 v1290 (ix1 l) = v1290 (ix3 (0 : Fin 1) (0 : Fin 1) l) := by
  unfold k0_pay482
  exact cast_16 v1290 l

theorem k0_pay483_lane (v1295 : Vec F S1x1x16 .f32) (l : Fin 16) :
    k0_pay483 v1295 (ix1 l) = v1295 (ix3 (0 : Fin 1) (0 : Fin 1) l) := by
  unfold k0_pay483
  exact cast_16 v1295 l

theorem k0_pay484_lane (v1300 : Vec F S1x1x16 .f32) (l : Fin 16) :
    k0_pay484 v1300 (ix1 l) = v1300 (ix3 (0 : Fin 1) (0 : Fin 1) l) := by
  unfold k0_pay484
  exact cast_16 v1300 l

theorem k0_pay485_lane (v1305 : Vec F S1x1x16 .f32) (l : Fin 16) :
    k0_pay485 v1305 (ix1 l) = v1305 (ix3 (0 : Fin 1) (0 : Fin 1) l) := by
  unfold k0_pay485
  exact cast_16 v1305 l

theorem k0_pay486_lane (v1310 : Vec F S1x1x16 .f32) (l : Fin 16) :
    k0_pay486 v1310 (ix1 l) = v1310 (ix3 (0 : Fin 1) (0 : Fin 1) l) := by
  unfold k0_pay486
  exact cast_16 v1310 l

theorem k0_pay487_lane (v1315 : Vec F S1x1x16 .f32) (l : Fin 16) :
    k0_pay487 v1315 (ix1 l) = v1315 (ix3 (0 : Fin 1) (0 : Fin 1) l) := by
  unfold k0_pay487
  exact cast_16 v1315 l

theorem k0_pay488_lane (v1320 : Vec F S1x1x16 .f32) (l : Fin 16) :
    k0_pay488 v1320 (ix1 l) = v1320 (ix3 (0 : Fin 1) (0 : Fin 1) l) := by
  unfold k0_pay488
  exact cast_16 v1320 l

theorem k0_pay489_lane (v1325 : Vec F S1x1x16 .f32) (l : Fin 16) :
    k0_pay489 v1325 (ix1 l) = v1325 (ix3 (0 : Fin 1) (0 : Fin 1) l) := by
  unfold k0_pay489
  exact cast_16 v1325 l

theorem k0_pay490_lane (v1330 : Vec F S1x1x16 .f32) (l : Fin 16) :
    k0_pay490 v1330 (ix1 l) = v1330 (ix3 (0 : Fin 1) (0 : Fin 1) l) := by
  unfold k0_pay490
  exact cast_16 v1330 l

theorem k0_pay491_lane (v1335 : Vec F S1x1x16 .f32) (l : Fin 16) :
    k0_pay491 v1335 (ix1 l) = v1335 (ix3 (0 : Fin 1) (0 : Fin 1) l) := by
  unfold k0_pay491
  exact cast_16 v1335 l

theorem k0_pay492_lane (v1340 : Vec F S1x1x16 .f32) (l : Fin 16) :
    k0_pay492 v1340 (ix1 l) = v1340 (ix3 (0 : Fin 1) (0 : Fin 1) l) := by
  unfold k0_pay492
  exact cast_16 v1340 l

theorem k0_pay493_lane (v1345 : Vec F S1x1x16 .f32) (l : Fin 16) :
    k0_pay493 v1345 (ix1 l) = v1345 (ix3 (0 : Fin 1) (0 : Fin 1) l) := by
  unfold k0_pay493
  exact cast_16 v1345 l

theorem k0_pay494_lane (v1350 : Vec F S1x1x16 .f32) (l : Fin 16) :
    k0_pay494 v1350 (ix1 l) = v1350 (ix3 (0 : Fin 1) (0 : Fin 1) l) := by
  unfold k0_pay494
  exact cast_16 v1350 l

theorem k0_pay495_lane (v1355 : Vec F S1x1x16 .f32) (l : Fin 16) :
    k0_pay495 v1355 (ix1 l) = v1355 (ix3 (0 : Fin 1) (0 : Fin 1) l) := by
  unfold k0_pay495
  exact cast_16 v1355 l

theorem k0_pay496_lane (v1360 : Vec F S1x1x16 .f32) (l : Fin 16) :
    k0_pay496 v1360 (ix1 l) = v1360 (ix3 (0 : Fin 1) (0 : Fin 1) l) := by
  unfold k0_pay496
  exact cast_16 v1360 l

theorem k0_pay497_lane (v1365 : Vec F S1x1x16 .f32) (l : Fin 16) :
    k0_pay497 v1365 (ix1 l) = v1365 (ix3 (0 : Fin 1) (0 : Fin 1) l) := by
  unfold k0_pay497
  exact cast_16 v1365 l

theorem k0_pay498_lane (v1370 : Vec F S1x1x16 .f32) (l : Fin 16) :
    k0_pay498 v1370 (ix1 l) = v1370 (ix3 (0 : Fin 1) (0 : Fin 1) l) := by
  unfold k0_pay498
  exact cast_16 v1370 l

theorem k0_pay499_lane (v1375 : Vec F S1x1x16 .f32) (l : Fin 16) :
    k0_pay499 v1375 (ix1 l) = v1375 (ix3 (0 : Fin 1) (0 : Fin 1) l) := by
  unfold k0_pay499
  exact cast_16 v1375 l

theorem k0_pay500_lane (v1380 : Vec F S1x1x16 .f32) (l : Fin 16) :
    k0_pay500 v1380 (ix1 l) = v1380 (ix3 (0 : Fin 1) (0 : Fin 1) l) := by
  unfold k0_pay500
  exact cast_16 v1380 l

theorem k0_pay501_lane (v1385 : Vec F S1x1x16 .f32) (l : Fin 16) :
    k0_pay501 v1385 (ix1 l) = v1385 (ix3 (0 : Fin 1) (0 : Fin 1) l) := by
  unfold k0_pay501
  exact cast_16 v1385 l

theorem k0_pay502_lane (v1390 : Vec F S1x1x16 .f32) (l : Fin 16) :
    k0_pay502 v1390 (ix1 l) = v1390 (ix3 (0 : Fin 1) (0 : Fin 1) l) := by
  unfold k0_pay502
  exact cast_16 v1390 l

theorem k0_pay503_lane (v1395 : Vec F S1x1x16 .f32) (l : Fin 16) :
    k0_pay503 v1395 (ix1 l) = v1395 (ix3 (0 : Fin 1) (0 : Fin 1) l) := by
  unfold k0_pay503
  exact cast_16 v1395 l

theorem k0_pay504_lane (v1400 : Vec F S1x1x16 .f32) (l : Fin 16) :
    k0_pay504 v1400 (ix1 l) = v1400 (ix3 (0 : Fin 1) (0 : Fin 1) l) := by
  unfold k0_pay504
  exact cast_16 v1400 l

theorem k0_pay505_lane (v1405 : Vec F S1x1x16 .f32) (l : Fin 16) :
    k0_pay505 v1405 (ix1 l) = v1405 (ix3 (0 : Fin 1) (0 : Fin 1) l) := by
  unfold k0_pay505
  exact cast_16 v1405 l

theorem k0_pay506_lane (v1410 : Vec F S1x1x16 .f32) (l : Fin 16) :
    k0_pay506 v1410 (ix1 l) = v1410 (ix3 (0 : Fin 1) (0 : Fin 1) l) := by
  unfold k0_pay506
  exact cast_16 v1410 l

theorem k0_pay507_lane (v1415 : Vec F S1x1x16 .f32) (l : Fin 16) :
    k0_pay507 v1415 (ix1 l) = v1415 (ix3 (0 : Fin 1) (0 : Fin 1) l) := by
  unfold k0_pay507
  exact cast_16 v1415 l

theorem k0_pay508_lane (v1420 : Vec F S1x1x16 .f32) (l : Fin 16) :
    k0_pay508 v1420 (ix1 l) = v1420 (ix3 (0 : Fin 1) (0 : Fin 1) l) := by
  unfold k0_pay508
  exact cast_16 v1420 l

theorem k0_pay509_lane (v1425 : Vec F S1x1x16 .f32) (l : Fin 16) :
    k0_pay509 v1425 (ix1 l) = v1425 (ix3 (0 : Fin 1) (0 : Fin 1) l) := by
  unfold k0_pay509
  exact cast_16 v1425 l

theorem k0_pay510_lane (v1430 : Vec F S1x1x16 .f32) (l : Fin 16) :
    k0_pay510 v1430 (ix1 l) = v1430 (ix3 (0 : Fin 1) (0 : Fin 1) l) := by
  unfold k0_pay510
  exact cast_16 v1430 l

theorem k0_pay511_lane (v1435 : Vec F S1x1x16 .f32) (l : Fin 16) :
    k0_pay511 v1435 (ix1 l) = v1435 (ix3 (0 : Fin 1) (0 : Fin 1) l) := by
  unfold k0_pay511
  exact cast_16 v1435 l

theorem k0_pay512_lane (v1440 : Vec F S1x1x16 .f32) (l : Fin 16) :
    k0_pay512 v1440 (ix1 l) = v1440 (ix3 (0 : Fin 1) (0 : Fin 1) l) := by
  unfold k0_pay512
  exact cast_16 v1440 l

theorem k0_pay513_lane (v1445 : Vec F S1x1x16 .f32) (l : Fin 16) :
    k0_pay513 v1445 (ix1 l) = v1445 (ix3 (0 : Fin 1) (0 : Fin 1) l) := by
  unfold k0_pay513
  exact cast_16 v1445 l

theorem k0_pay514_lane (v1291 : FVec F S16 .f32) (v1296 : FVec F S16 .f32) (l : Fin 16) :
    k0_pay514 v1291 v1296 (ix1 l) = FloatOps.addf (v1291 (ix1 l)) (v1296 (ix1 l)) := by
  unfold k0_pay514
  exact congrArg₂ FloatOps.addf (rfl) (rfl)

theorem k0_pay515_lane (v1301 : FVec F S16 .f32) (v1306 : FVec F S16 .f32) (l : Fin 16) :
    k0_pay515 v1301 v1306 (ix1 l) = FloatOps.addf (v1301 (ix1 l)) (v1306 (ix1 l)) := by
  unfold k0_pay515
  exact congrArg₂ FloatOps.addf (rfl) (rfl)

theorem k0_pay516_lane (v1311 : FVec F S16 .f32) (v1316 : FVec F S16 .f32) (l : Fin 16) :
    k0_pay516 v1311 v1316 (ix1 l) = FloatOps.addf (v1311 (ix1 l)) (v1316 (ix1 l)) := by
  unfold k0_pay516
  exact congrArg₂ FloatOps.addf (rfl) (rfl)

theorem k0_pay517_lane (v1321 : FVec F S16 .f32) (v1326 : FVec F S16 .f32) (l : Fin 16) :
    k0_pay517 v1321 v1326 (ix1 l) = FloatOps.addf (v1321 (ix1 l)) (v1326 (ix1 l)) := by
  unfold k0_pay517
  exact congrArg₂ FloatOps.addf (rfl) (rfl)

theorem k0_pay518_lane (v1331 : FVec F S16 .f32) (v1336 : FVec F S16 .f32) (l : Fin 16) :
    k0_pay518 v1331 v1336 (ix1 l) = FloatOps.addf (v1331 (ix1 l)) (v1336 (ix1 l)) := by
  unfold k0_pay518
  exact congrArg₂ FloatOps.addf (rfl) (rfl)

theorem k0_pay519_lane (v1341 : FVec F S16 .f32) (v1346 : FVec F S16 .f32) (l : Fin 16) :
    k0_pay519 v1341 v1346 (ix1 l) = FloatOps.addf (v1341 (ix1 l)) (v1346 (ix1 l)) := by
  unfold k0_pay519
  exact congrArg₂ FloatOps.addf (rfl) (rfl)

theorem k0_pay520_lane (v1351 : FVec F S16 .f32) (v1356 : FVec F S16 .f32) (l : Fin 16) :
    k0_pay520 v1351 v1356 (ix1 l) = FloatOps.addf (v1351 (ix1 l)) (v1356 (ix1 l)) := by
  unfold k0_pay520
  exact congrArg₂ FloatOps.addf (rfl) (rfl)

theorem k0_pay521_lane (v1361 : FVec F S16 .f32) (v1366 : FVec F S16 .f32) (l : Fin 16) :
    k0_pay521 v1361 v1366 (ix1 l) = FloatOps.addf (v1361 (ix1 l)) (v1366 (ix1 l)) := by
  unfold k0_pay521
  exact congrArg₂ FloatOps.addf (rfl) (rfl)

theorem k0_pay522_lane (v1371 : FVec F S16 .f32) (v1376 : FVec F S16 .f32) (l : Fin 16) :
    k0_pay522 v1371 v1376 (ix1 l) = FloatOps.addf (v1371 (ix1 l)) (v1376 (ix1 l)) := by
  unfold k0_pay522
  exact congrArg₂ FloatOps.addf (rfl) (rfl)

theorem k0_pay523_lane (v1381 : FVec F S16 .f32) (v1386 : FVec F S16 .f32) (l : Fin 16) :
    k0_pay523 v1381 v1386 (ix1 l) = FloatOps.addf (v1381 (ix1 l)) (v1386 (ix1 l)) := by
  unfold k0_pay523
  exact congrArg₂ FloatOps.addf (rfl) (rfl)

theorem k0_pay524_lane (v1391 : FVec F S16 .f32) (v1396 : FVec F S16 .f32) (l : Fin 16) :
    k0_pay524 v1391 v1396 (ix1 l) = FloatOps.addf (v1391 (ix1 l)) (v1396 (ix1 l)) := by
  unfold k0_pay524
  exact congrArg₂ FloatOps.addf (rfl) (rfl)

theorem k0_pay525_lane (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (l : Fin 16) :
    k0_pay525 v1401 v1406 v1411 v1416 v1421 v1426 v1431 v1436 v1441 v1446 v1447 v1448 v1449 v1450 v1451 v1452 v1453 v1454 v1455 v1456 v1457 (ix3 (0 : Fin 1) (0 : Fin 1) l) = FloatOps.addf (FloatOps.addf (FloatOps.addf (FloatOps.addf (v1447 (ix1 l)) (v1448 (ix1 l))) (FloatOps.addf (v1449 (ix1 l)) (v1450 (ix1 l)))) (FloatOps.addf (FloatOps.addf (v1451 (ix1 l)) (v1452 (ix1 l))) (FloatOps.addf (v1453 (ix1 l)) (v1454 (ix1 l))))) (FloatOps.addf (FloatOps.addf (FloatOps.addf (v1455 (ix1 l)) (v1456 (ix1 l))) (FloatOps.addf (v1457 (ix1 l)) (FloatOps.addf (v1401 (ix1 l)) (v1406 (ix1 l))))) (FloatOps.addf (FloatOps.addf (FloatOps.addf (v1411 (ix1 l)) (v1416 (ix1 l))) (FloatOps.addf (v1421 (ix1 l)) (v1426 (ix1 l)))) (FloatOps.addf (FloatOps.addf (v1431 (ix1 l)) (v1436 (ix1 l))) (FloatOps.addf (v1441 (ix1 l)) (v1446 (ix1 l)))))) := by
  unfold k0_pay525
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k0_pay525_tree (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (w : Fin 32 → F .f32) (l : Fin 16)
    (h_v1447 : v1447 (ix1 l) = FloatOps.addf (w 0) (w 1))
    (h_v1448 : v1448 (ix1 l) = FloatOps.addf (w 2) (w 3))
    (h_v1449 : v1449 (ix1 l) = FloatOps.addf (w 4) (w 5))
    (h_v1450 : v1450 (ix1 l) = FloatOps.addf (w 6) (w 7))
    (h_v1451 : v1451 (ix1 l) = FloatOps.addf (w 8) (w 9))
    (h_v1452 : v1452 (ix1 l) = FloatOps.addf (w 10) (w 11))
    (h_v1453 : v1453 (ix1 l) = FloatOps.addf (w 12) (w 13))
    (h_v1454 : v1454 (ix1 l) = FloatOps.addf (w 14) (w 15))
    (h_v1455 : v1455 (ix1 l) = FloatOps.addf (w 16) (w 17))
    (h_v1456 : v1456 (ix1 l) = FloatOps.addf (w 18) (w 19))
    (h_v1457 : v1457 (ix1 l) = FloatOps.addf (w 20) (w 21))
    (h_v1401 : v1401 (ix1 l) = w 22)
    (h_v1406 : v1406 (ix1 l) = w 23)
    (h_v1411 : v1411 (ix1 l) = w 24)
    (h_v1416 : v1416 (ix1 l) = w 25)
    (h_v1421 : v1421 (ix1 l) = w 26)
    (h_v1426 : v1426 (ix1 l) = w 27)
    (h_v1431 : v1431 (ix1 l) = w 28)
    (h_v1436 : v1436 (ix1 l) = w 29)
    (h_v1441 : v1441 (ix1 l) = w 30)
    (h_v1446 : v1446 (ix1 l) = w 31) :
    k0_pay525 v1401 v1406 v1411 v1416 v1421 v1426 v1431 v1436 v1441 v1446 v1447 v1448 v1449 v1450 v1451 v1452 v1453 v1454 v1455 v1456 v1457 (ix3 (0 : Fin 1) (0 : Fin 1) l) = tree32 w := by
  unfold k0_pay525
  refine (cast_116 _ l).trans ?_
  exact congrArg₂ FloatOps.addf (congrArg₂ FloatOps.addf (congrArg₂ FloatOps.addf (congrArg₂ FloatOps.addf (h_v1447) (h_v1448)) (congrArg₂ FloatOps.addf (h_v1449) (h_v1450))) (congrArg₂ FloatOps.addf (congrArg₂ FloatOps.addf (h_v1451) (h_v1452)) (congrArg₂ FloatOps.addf (h_v1453) (h_v1454)))) (congrArg₂ FloatOps.addf (congrArg₂ FloatOps.addf (congrArg₂ FloatOps.addf (h_v1455) (h_v1456)) (congrArg₂ FloatOps.addf (h_v1457) (congrArg₂ FloatOps.addf (h_v1401) (h_v1406)))) (congrArg₂ FloatOps.addf (congrArg₂ FloatOps.addf (congrArg₂ FloatOps.addf (h_v1411) (h_v1416)) (congrArg₂ FloatOps.addf (h_v1421) (h_v1426))) (congrArg₂ FloatOps.addf (congrArg₂ FloatOps.addf (h_v1431) (h_v1436)) (congrArg₂ FloatOps.addf (h_v1441) (h_v1446)))))

theorem k0_pay526_lane (v1486 : Vec F S1x1x16 .f32) (l : Fin 16) :
    k0_pay526 v1486 (ix1 l) = v1486 (ix3 (0 : Fin 1) (0 : Fin 1) l) := by
  unfold k0_pay526
  exact cast_16 v1486 l

theorem k0_pay527_lane (v1491 : Vec F S1x1x16 .f32) (l : Fin 16) :
    k0_pay527 v1491 (ix1 l) = v1491 (ix3 (0 : Fin 1) (0 : Fin 1) l) := by
  unfold k0_pay527
  exact cast_16 v1491 l

theorem k0_pay528_lane (v1496 : Vec F S1x1x16 .f32) (l : Fin 16) :
    k0_pay528 v1496 (ix1 l) = v1496 (ix3 (0 : Fin 1) (0 : Fin 1) l) := by
  unfold k0_pay528
  exact cast_16 v1496 l

theorem k0_pay529_lane (v1501 : Vec F S1x1x16 .f32) (l : Fin 16) :
    k0_pay529 v1501 (ix1 l) = v1501 (ix3 (0 : Fin 1) (0 : Fin 1) l) := by
  unfold k0_pay529
  exact cast_16 v1501 l

theorem k0_pay530_lane (v1506 : Vec F S1x1x16 .f32) (l : Fin 16) :
    k0_pay530 v1506 (ix1 l) = v1506 (ix3 (0 : Fin 1) (0 : Fin 1) l) := by
  unfold k0_pay530
  exact cast_16 v1506 l

theorem k0_pay531_lane (v1511 : Vec F S1x1x16 .f32) (l : Fin 16) :
    k0_pay531 v1511 (ix1 l) = v1511 (ix3 (0 : Fin 1) (0 : Fin 1) l) := by
  unfold k0_pay531
  exact cast_16 v1511 l

theorem k0_pay532_lane (v1516 : Vec F S1x1x16 .f32) (l : Fin 16) :
    k0_pay532 v1516 (ix1 l) = v1516 (ix3 (0 : Fin 1) (0 : Fin 1) l) := by
  unfold k0_pay532
  exact cast_16 v1516 l

theorem k0_pay533_lane (v1521 : Vec F S1x1x16 .f32) (l : Fin 16) :
    k0_pay533 v1521 (ix1 l) = v1521 (ix3 (0 : Fin 1) (0 : Fin 1) l) := by
  unfold k0_pay533
  exact cast_16 v1521 l

theorem k0_pay534_lane (v1526 : Vec F S1x1x16 .f32) (l : Fin 16) :
    k0_pay534 v1526 (ix1 l) = v1526 (ix3 (0 : Fin 1) (0 : Fin 1) l) := by
  unfold k0_pay534
  exact cast_16 v1526 l

theorem k0_pay535_lane (v1531 : Vec F S1x1x16 .f32) (l : Fin 16) :
    k0_pay535 v1531 (ix1 l) = v1531 (ix3 (0 : Fin 1) (0 : Fin 1) l) := by
  unfold k0_pay535
  exact cast_16 v1531 l

theorem k0_pay536_lane (v1536 : Vec F S1x1x16 .f32) (l : Fin 16) :
    k0_pay536 v1536 (ix1 l) = v1536 (ix3 (0 : Fin 1) (0 : Fin 1) l) := by
  unfold k0_pay536
  exact cast_16 v1536 l

theorem k0_pay537_lane (v1541 : Vec F S1x1x16 .f32) (l : Fin 16) :
    k0_pay537 v1541 (ix1 l) = v1541 (ix3 (0 : Fin 1) (0 : Fin 1) l) := by
  unfold k0_pay537
  exact cast_16 v1541 l

theorem k0_pay538_lane (v1546 : Vec F S1x1x16 .f32) (l : Fin 16) :
    k0_pay538 v1546 (ix1 l) = v1546 (ix3 (0 : Fin 1) (0 : Fin 1) l) := by
  unfold k0_pay538
  exact cast_16 v1546 l

theorem k0_pay539_lane (v1551 : Vec F S1x1x16 .f32) (l : Fin 16) :
    k0_pay539 v1551 (ix1 l) = v1551 (ix3 (0 : Fin 1) (0 : Fin 1) l) := by
  unfold k0_pay539
  exact cast_16 v1551 l

theorem k0_pay540_lane (v1556 : Vec F S1x1x16 .f32) (l : Fin 16) :
    k0_pay540 v1556 (ix1 l) = v1556 (ix3 (0 : Fin 1) (0 : Fin 1) l) := by
  unfold k0_pay540
  exact cast_16 v1556 l

theorem k0_pay541_lane (v1561 : Vec F S1x1x16 .f32) (l : Fin 16) :
    k0_pay541 v1561 (ix1 l) = v1561 (ix3 (0 : Fin 1) (0 : Fin 1) l) := by
  unfold k0_pay541
  exact cast_16 v1561 l

theorem k0_pay542_lane (v1566 : Vec F S1x1x16 .f32) (l : Fin 16) :
    k0_pay542 v1566 (ix1 l) = v1566 (ix3 (0 : Fin 1) (0 : Fin 1) l) := by
  unfold k0_pay542
  exact cast_16 v1566 l

theorem k0_pay543_lane (v1571 : Vec F S1x1x16 .f32) (l : Fin 16) :
    k0_pay543 v1571 (ix1 l) = v1571 (ix3 (0 : Fin 1) (0 : Fin 1) l) := by
  unfold k0_pay543
  exact cast_16 v1571 l

theorem k0_pay544_lane (v1576 : Vec F S1x1x16 .f32) (l : Fin 16) :
    k0_pay544 v1576 (ix1 l) = v1576 (ix3 (0 : Fin 1) (0 : Fin 1) l) := by
  unfold k0_pay544
  exact cast_16 v1576 l

theorem k0_pay545_lane (v1581 : Vec F S1x1x16 .f32) (l : Fin 16) :
    k0_pay545 v1581 (ix1 l) = v1581 (ix3 (0 : Fin 1) (0 : Fin 1) l) := by
  unfold k0_pay545
  exact cast_16 v1581 l

theorem k0_pay546_lane (v1586 : Vec F S1x1x16 .f32) (l : Fin 16) :
    k0_pay546 v1586 (ix1 l) = v1586 (ix3 (0 : Fin 1) (0 : Fin 1) l) := by
  unfold k0_pay546
  exact cast_16 v1586 l

theorem k0_pay547_lane (v1591 : Vec F S1x1x16 .f32) (l : Fin 16) :
    k0_pay547 v1591 (ix1 l) = v1591 (ix3 (0 : Fin 1) (0 : Fin 1) l) := by
  unfold k0_pay547
  exact cast_16 v1591 l

theorem k0_pay548_lane (v1596 : Vec F S1x1x16 .f32) (l : Fin 16) :
    k0_pay548 v1596 (ix1 l) = v1596 (ix3 (0 : Fin 1) (0 : Fin 1) l) := by
  unfold k0_pay548
  exact cast_16 v1596 l

theorem k0_pay549_lane (v1601 : Vec F S1x1x16 .f32) (l : Fin 16) :
    k0_pay549 v1601 (ix1 l) = v1601 (ix3 (0 : Fin 1) (0 : Fin 1) l) := by
  unfold k0_pay549
  exact cast_16 v1601 l

theorem k0_pay550_lane (v1606 : Vec F S1x1x16 .f32) (l : Fin 16) :
    k0_pay550 v1606 (ix1 l) = v1606 (ix3 (0 : Fin 1) (0 : Fin 1) l) := by
  unfold k0_pay550
  exact cast_16 v1606 l

theorem k0_pay551_lane (v1611 : Vec F S1x1x16 .f32) (l : Fin 16) :
    k0_pay551 v1611 (ix1 l) = v1611 (ix3 (0 : Fin 1) (0 : Fin 1) l) := by
  unfold k0_pay551
  exact cast_16 v1611 l

theorem k0_pay552_lane (v1487 : FVec F S16 .f32) (v1492 : FVec F S16 .f32) (l : Fin 16) :
    k0_pay552 v1487 v1492 (ix1 l) = FloatOps.addf (v1487 (ix1 l)) (v1492 (ix1 l)) := by
  unfold k0_pay552
  exact congrArg₂ FloatOps.addf (rfl) (rfl)

theorem k0_pay553_lane (v1497 : FVec F S16 .f32) (v1502 : FVec F S16 .f32) (l : Fin 16) :
    k0_pay553 v1497 v1502 (ix1 l) = FloatOps.addf (v1497 (ix1 l)) (v1502 (ix1 l)) := by
  unfold k0_pay553
  exact congrArg₂ FloatOps.addf (rfl) (rfl)

theorem k0_pay554_lane (v1507 : FVec F S16 .f32) (v1512 : FVec F S16 .f32) (l : Fin 16) :
    k0_pay554 v1507 v1512 (ix1 l) = FloatOps.addf (v1507 (ix1 l)) (v1512 (ix1 l)) := by
  unfold k0_pay554
  exact congrArg₂ FloatOps.addf (rfl) (rfl)

theorem k0_pay555_lane (v1517 : FVec F S16 .f32) (v1522 : FVec F S16 .f32) (l : Fin 16) :
    k0_pay555 v1517 v1522 (ix1 l) = FloatOps.addf (v1517 (ix1 l)) (v1522 (ix1 l)) := by
  unfold k0_pay555
  exact congrArg₂ FloatOps.addf (rfl) (rfl)

theorem k0_pay556_lane (v1527 : FVec F S16 .f32) (v1532 : FVec F S16 .f32) (l : Fin 16) :
    k0_pay556 v1527 v1532 (ix1 l) = FloatOps.addf (v1527 (ix1 l)) (v1532 (ix1 l)) := by
  unfold k0_pay556
  exact congrArg₂ FloatOps.addf (rfl) (rfl)

theorem k0_pay557_lane (v1537 : FVec F S16 .f32) (v1542 : FVec F S16 .f32) (l : Fin 16) :
    k0_pay557 v1537 v1542 (ix1 l) = FloatOps.addf (v1537 (ix1 l)) (v1542 (ix1 l)) := by
  unfold k0_pay557
  exact congrArg₂ FloatOps.addf (rfl) (rfl)

theorem k0_pay558_lane (v1547 : FVec F S16 .f32) (v1552 : FVec F S16 .f32) (l : Fin 16) :
    k0_pay558 v1547 v1552 (ix1 l) = FloatOps.addf (v1547 (ix1 l)) (v1552 (ix1 l)) := by
  unfold k0_pay558
  exact congrArg₂ FloatOps.addf (rfl) (rfl)

theorem k0_pay559_lane (v1557 : FVec F S16 .f32) (v1562 : FVec F S16 .f32) (l : Fin 16) :
    k0_pay559 v1557 v1562 (ix1 l) = FloatOps.addf (v1557 (ix1 l)) (v1562 (ix1 l)) := by
  unfold k0_pay559
  exact congrArg₂ FloatOps.addf (rfl) (rfl)

theorem k0_pay560_lane (v1567 : FVec F S16 .f32) (v1572 : FVec F S16 .f32) (l : Fin 16) :
    k0_pay560 v1567 v1572 (ix1 l) = FloatOps.addf (v1567 (ix1 l)) (v1572 (ix1 l)) := by
  unfold k0_pay560
  exact congrArg₂ FloatOps.addf (rfl) (rfl)

theorem k0_pay561_lane (v1577 : FVec F S16 .f32) (v1582 : FVec F S16 .f32) (l : Fin 16) :
    k0_pay561 v1577 v1582 (ix1 l) = FloatOps.addf (v1577 (ix1 l)) (v1582 (ix1 l)) := by
  unfold k0_pay561
  exact congrArg₂ FloatOps.addf (rfl) (rfl)

theorem k0_pay562_lane (v1587 : FVec F S16 .f32) (v1592 : FVec F S16 .f32) (l : Fin 16) :
    k0_pay562 v1587 v1592 (ix1 l) = FloatOps.addf (v1587 (ix1 l)) (v1592 (ix1 l)) := by
  unfold k0_pay562
  exact congrArg₂ FloatOps.addf (rfl) (rfl)

theorem k0_pay563_lane (v1597 : FVec F S16 .f32) (v1602 : FVec F S16 .f32) (l : Fin 16) :
    k0_pay563 v1597 v1602 (ix1 l) = FloatOps.addf (v1597 (ix1 l)) (v1602 (ix1 l)) := by
  unfold k0_pay563
  exact congrArg₂ FloatOps.addf (rfl) (rfl)

theorem k0_pay564_lane (v1607 : FVec F S16 .f32) (v1612 : FVec F S16 .f32) (l : Fin 16) :
    k0_pay564 v1607 v1612 (ix1 l) = FloatOps.addf (v1607 (ix1 l)) (v1612 (ix1 l)) := by
  unfold k0_pay564
  exact congrArg₂ FloatOps.addf (rfl) (rfl)

theorem k0_pay565_lane (v1616 : Vec F S1x1x16 .f32) (v1621 : Vec F S1x1x16 .f32) (l : Fin 16) :
    k0_pay565 v1616 v1621 (ix1 l) = FloatOps.addf (v1616 (ix3 (0 : Fin 1) (0 : Fin 1) l)) (v1621 (ix3 (0 : Fin 1) (0 : Fin 1) l)) := by
  unfold k0_pay565
  exact congrArg₂ FloatOps.addf (cast_16 v1616 l) (cast_16 v1621 l)

theorem k0_pay566_lane (v1626 : Vec F S1x1x16 .f32) (v1631 : Vec F S1x1x16 .f32) (l : Fin 16) :
    k0_pay566 v1626 v1631 (ix1 l) = FloatOps.addf (v1626 (ix3 (0 : Fin 1) (0 : Fin 1) l)) (v1631 (ix3 (0 : Fin 1) (0 : Fin 1) l)) := by
  unfold k0_pay566
  exact congrArg₂ FloatOps.addf (cast_16 v1626 l) (cast_16 v1631 l)

theorem k0_pay567_lane (v1636 : Vec F S1x1x16 .f32) (v1641 : Vec F S1x1x16 .f32) (l : Fin 16) :
    k0_pay567 v1636 v1641 (ix1 l) = FloatOps.addf (v1636 (ix3 (0 : Fin 1) (0 : Fin 1) l)) (v1641 (ix3 (0 : Fin 1) (0 : Fin 1) l)) := by
  unfold k0_pay567
  exact congrArg₂ FloatOps.addf (cast_16 v1636 l) (cast_16 v1641 l)

theorem k0_pay568_lane (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (l : Fin 16) :
    k0_pay568 v1643 v1644 v1645 v1646 v1647 v1648 v1649 v1650 v1651 v1652 v1653 v1654 v1655 v1656 v1657 v1658 (ix1 l) = FloatOps.addf (FloatOps.addf (FloatOps.addf (FloatOps.addf (v1643 (ix1 l)) (v1644 (ix1 l))) (FloatOps.addf (v1645 (ix1 l)) (v1646 (ix1 l)))) (FloatOps.addf (FloatOps.addf (v1647 (ix1 l)) (v1648 (ix1 l))) (FloatOps.addf (v1649 (ix1 l)) (v1650 (ix1 l))))) (FloatOps.addf (FloatOps.addf (FloatOps.addf (v1651 (ix1 l)) (v1652 (ix1 l))) (FloatOps.addf (v1653 (ix1 l)) (v1654 (ix1 l)))) (FloatOps.addf (FloatOps.addf (v1655 (ix1 l)) (v1656 (ix1 l))) (FloatOps.addf (v1657 (ix1 l)) (v1658 (ix1 l))))) := by
  unfold k0_pay568
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))

theorem k0_pay568_tree (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (w : Fin 32 → F .f32) (l : Fin 16)
    (h_v1643 : v1643 (ix1 l) = FloatOps.addf (w 0) (w 1))
    (h_v1644 : v1644 (ix1 l) = FloatOps.addf (w 2) (w 3))
    (h_v1645 : v1645 (ix1 l) = FloatOps.addf (w 4) (w 5))
    (h_v1646 : v1646 (ix1 l) = FloatOps.addf (w 6) (w 7))
    (h_v1647 : v1647 (ix1 l) = FloatOps.addf (w 8) (w 9))
    (h_v1648 : v1648 (ix1 l) = FloatOps.addf (w 10) (w 11))
    (h_v1649 : v1649 (ix1 l) = FloatOps.addf (w 12) (w 13))
    (h_v1650 : v1650 (ix1 l) = FloatOps.addf (w 14) (w 15))
    (h_v1651 : v1651 (ix1 l) = FloatOps.addf (w 16) (w 17))
    (h_v1652 : v1652 (ix1 l) = FloatOps.addf (w 18) (w 19))
    (h_v1653 : v1653 (ix1 l) = FloatOps.addf (w 20) (w 21))
    (h_v1654 : v1654 (ix1 l) = FloatOps.addf (w 22) (w 23))
    (h_v1655 : v1655 (ix1 l) = FloatOps.addf (w 24) (w 25))
    (h_v1656 : v1656 (ix1 l) = FloatOps.addf (w 26) (w 27))
    (h_v1657 : v1657 (ix1 l) = FloatOps.addf (w 28) (w 29))
    (h_v1658 : v1658 (ix1 l) = FloatOps.addf (w 30) (w 31)) :
    k0_pay568 v1643 v1644 v1645 v1646 v1647 v1648 v1649 v1650 v1651 v1652 v1653 v1654 v1655 v1656 v1657 v1658 (ix1 l) = tree32 w := by
  unfold k0_pay568
  exact congrArg₂ FloatOps.addf (congrArg₂ FloatOps.addf (congrArg₂ FloatOps.addf (congrArg₂ FloatOps.addf (h_v1643) (h_v1644)) (congrArg₂ FloatOps.addf (h_v1645) (h_v1646))) (congrArg₂ FloatOps.addf (congrArg₂ FloatOps.addf (h_v1647) (h_v1648)) (congrArg₂ FloatOps.addf (h_v1649) (h_v1650)))) (congrArg₂ FloatOps.addf (congrArg₂ FloatOps.addf (congrArg₂ FloatOps.addf (h_v1651) (h_v1652)) (congrArg₂ FloatOps.addf (h_v1653) (h_v1654))) (congrArg₂ FloatOps.addf (congrArg₂ FloatOps.addf (h_v1655) (h_v1656)) (congrArg₂ FloatOps.addf (h_v1657) (h_v1658))))

theorem k0_pay569_lane (v1673 : FVec F S16 .f32) (l : Fin 16) :
    k0_pay569 v1673 (ix3 (0 : Fin 1) (0 : Fin 1) l) = v1673 (ix1 l) := by
  unfold k0_pay569
  exact cast_116 v1673 l

theorem k0_pay570_lane (v1673 : FVec F S16 .f32) (l : Fin 16) :
    k0_pay570 v1673 (ix3 (0 : Fin 1) (0 : Fin 1) l) = v1673 (ix1 l) := by
  unfold k0_pay570
  exact cast_116 v1673 l

end Cert.Proof.KI

end
-- ==== Proof.BodyInner.lean ====
import proofs.«205366_g3083786518796_cont_9to1_852_38_alg».proof.Proof.BodyLemmas
import proofs.«205366_g3083786518796_cont_9to1_852_38_alg».proof.Proof.ScTree0
import Idealize.ShloMosaic.Lib.Writes
import Idealize.ShloMosaic.Lib.ValueIdx

noncomputable section

/-!
# One trip of a tile's inner loop, with what it stores named

A trip of the inner loop takes one row `r` of one slot of the output scratch: for each of the eight groups of 16
lanes it loads the 32 gathered rows `32·r … 32·r + 31` of the same slot of the row scratch at those lanes, adds them in
five levels of pairwise sums, and stores the 16 sums.  After the trip the output scratch holds, at row `r` of that
slot, lane by lane the balanced tree of the 32 gathered numbers, and is unchanged everywhere else; the row scratch is
only read.
-/

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KI (tree32)

variable {F : FTy → Type}

variable [FloatOps F]
variable {U : Type} [URA U] [CountersIn U]

local notation "𝕄" => MT nD τ sig (HIx 3) (Elt F) ℕ U ℕ
local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

section Inner
variable (d : Dev nD) (L : grid0.Coords)

theorem trips_t2 : k0_t2_loop.trips = 4 := by decide
theorem trips_t3 : k0_t3_loop.trips = 4 := by decide
theorem k2_lt (k2 : Fin k0_t2_loop.trips) : k2.val < 4 := lt_of_lt_of_eq k2.isLt trips_t2
theorem k3_lt (k3 : Fin k0_t3_loop.trips) : k3.val < 4 := lt_of_lt_of_eq k3.isLt trips_t3

/-- An index of a [1,1,16] block is its lane. -/
theorem exists_lane (x : S1x1x16.Idx) : ∃ l : Fin 16, x = ix3 (0 : Fin 1) (0 : Fin 1) l := by
  refine ⟨x 2, ?_⟩
  funext a
  match a with
  | ⟨0, _⟩ => exact (Subsingleton.elim (α := Fin 1) _ _)
  | ⟨1, _⟩ => exact (Subsingleton.elim (α := Fin 1) _ _)
  | ⟨2, _⟩ => rfl

/-- A 16-lane load of the row scratch at slot `s`, row `R`, lanes from `c`: its lane `l` is the scratch's entry there. -/
theorem ld_lane (o : Fin 3 → Nat) (s : Fin 2) (R c : Nat) (hR : R < 128) (hc : c + 16 ≤ 128) (ho : o = ![s.val, R, c])
    (h : ∀ a, o a + S1x1x16.size a ≤ S2x128x128.size a) (fr : Buf (Elt F) ((V d (cV L) (jV L)).loc cc0_scratch1)) (l : Fin 16) :
    View.readAt (Elt F) (Memref.whole cc0_scratch1).view (Rect.unit (s := S2x128x128) o S1x1x16.size h).toLoadRect fr
        (ix3 (0 : Fin 1) (0 : Fin 1) l)
      = fr (ix3 s (⟨R, hR⟩ : Fin 128) (⟨c + l.val, by omega⟩ : Fin 128)) := by
  subst ho
  rw [View.readAt_apply]
  show fr ((Rect.unit (s := S2x128x128) ![s.val, R, c] S1x1x16.size h).toLoadRect.idx (ix3 (0 : Fin 1) (0 : Fin 1) l)) = _
  refine congrArg fr ?_
  funext a; apply Fin.ext
  match a with
  | ⟨0, _⟩ => show s.val + 1 * 0 = s.val; omega
  | ⟨1, _⟩ => show R + 1 * 0 = R; omega
  | ⟨2, _⟩ => show c + 1 * l.val = c + l.val; omega

/-- What row `r` of slot `s` of the output scratch is to hold at an index `y` of that row: the tree of the 32 gathered
    numbers, rows `32·r …` of slot `s` of the row scratch at `y`'s lane. -/
def scrSum (s : Fin 2) (fr : Buf (Elt F) ((V d (cV L) (jV L)).loc cc0_scratch1)) (r : Nat) (hr : r < 4) (y : S2x4x128.Idx) : F .f32 :=
  tree32 fun k : Fin 32 => fr (ix3 s (⟨32 * r + k.val, by omega⟩ : Fin 128) (y 2))

set_option maxHeartbeats 4000000 in
/-- Trip `kk` of slot 0's inner loop: the row scratch is only read; the output scratch ends with row `kk` of
    slot 0 at the trees of the 32 gathered rows, lane by lane, and is unchanged off that row.  (The contents are read
    through the whole buffer's view, `View.read … f = f`.) -/
theorem inner_trip0 (k : Fin k0_t1_loop.trips) (kk : Fin k0_t2_loop.trips)
    (fr : Buf (Elt F) ((V d (cV L) (jV L)).loc cc0_scratch1)) (fob : Buf (Elt F) ((V d (cV L) (jV L)).loc cc0_scratch2))
    (v2 : BitVec 32) :
    iprop(((rwV).view.loc (V d (cV L) (jV L)) ↦[Finset.univ \ (rwK1).view.set]{fullShare} fr)
      ∗ ((obV).view.loc (V d (cV L) (jV L)) ↦[Finset.univ \ (obK1).view.set]{fullShare} fob))
      ⊢ (wp frame (wpE (defs₀ (F := F)) 𝒱₀ (V d (cV L) (jV L)) none) Set.univ
          (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k kk ())
          fun _ => iprop(((rwV).view.loc (V d (cV L) (jV L)) ↦[Finset.univ \ (rwK1).view.set]{fullShare} fr)
            ∗ ∃ fob'' : Buf (Elt F) ((V d (cV L) (jV L)).loc cc0_scratch2), ((obV).view.loc (V d (cV L) (jV L)) ↦[Finset.univ \ (obK1).view.set]{fullShare} fob'')
              ∗ ⌜(∀ (g : Fin 8) (l : Fin 16), View.read (Elt F) (Memref.whole cc0_scratch2).view fob'' (ix3 (0 : Fin 2) (⟨kk.val, k2_lt kk⟩ : Fin 4) (⟨16 * g.val + l.val, by omega⟩ : Fin 128))
                    = scrSum d L (0 : Fin 2) fr kk.val (k2_lt kk) (ix3 (0 : Fin 2) (⟨kk.val, k2_lt kk⟩ : Fin 4) (⟨16 * g.val + l.val, by omega⟩ : Fin 128)))
                ∧ (∀ y : S2x4x128.Idx, ¬((y 0).val = 0 ∧ (y 1).val = kk.val) →
                    View.read (Elt F) (Memref.whole cc0_scratch2).view fob'' y = View.read (Elt F) (Memref.whole cc0_scratch2).view fob y)⌝) : sProp 𝕄) := by
  iintro ⟨Hrw, Hob⟩
  unfold k0_t2_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc0_scratch2).view fob (scrSum d L (0 : Fin 2) fr kk.val (k2_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (0 : Fin 2) fr kk.val (k2_lt kk) ((Rect.unit (s := S2x4x128) (k0_off19 kk) S1x1x16.size (k0_off19_inb kk)).emb (ix3 (0 : Fin 1) (0 : Fin 1) l'))
        simp only [Cert.Proof.KI.k0_pay569_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off18 kk (BitVec.ofNat 32 k.val)) S1x1x16.size (k0_off18_inb kk k)).toLoadRect fr (ix3 (0 : Fin 1) (0 : Fin 1) l')) rfl ?_
        refine (congrArg tree32 (funext fun k => ld_lane d L _ (0 : Fin 2) (32 * kk.val + k.val) 112 (by have := k2_lt kk; omega) (by omega) (k0_off18_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 112 + l'.val = k0_off19 kk 2 + 1 * l'.val
        rw [k0_off19_eq]
        show 112 + l'.val = 112 + 1 * l'.val
        omega
      · -- lane group 6: lanes 96 … 111
        intro x
        obtain ⟨l', rfl⟩ := exists_lane x
        show _ = scrSum d L (0 : Fin 2) fr kk.val (k2_lt kk) ((Rect.unit (s := S2x4x128) (k0_off17 kk) S1x1x16.size (k0_off17_inb kk)).emb (ix3 (0 : Fin 1) (0 : Fin 1) l'))
        simp only [Cert.Proof.KI.k0_pay241_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off16 kk (BitVec.ofNat 32 k.val)) S1x1x16.size (k0_off16_inb kk k)).toLoadRect fr (ix3 (0 : Fin 1) (0 : Fin 1) l')) rfl ?_
        refine (congrArg tree32 (funext fun k => ld_lane d L _ (0 : Fin 2) (32 * kk.val + k.val) 96 (by have := k2_lt kk; omega) (by omega) (k0_off16_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 96 + l'.val = k0_off17 kk 2 + 1 * l'.val
        rw [k0_off17_eq]
        show 96 + l'.val = 96 + 1 * l'.val
        omega
      · -- lane group 5: lanes 80 … 95
        intro x
        obtain ⟨l', rfl⟩ := exists_lane x
        show _ = scrSum d L (0 : Fin 2) fr kk.val (k2_lt kk) ((Rect.unit (s := S2x4x128) (k0_off15 kk) S1x1x16.size (k0_off15_inb kk)).emb (ix3 (0 : Fin 1) (0 : Fin 1) l'))
        simp only [Cert.Proof.KI.k0_pay197_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off14 kk (BitVec.ofNat 32 k.val)) S1x1x16.size (k0_off14_inb kk k)).toLoadRect fr (ix3 (0 : Fin 1) (0 : Fin 1) l')) rfl ?_
        refine (congrArg tree32 (funext fun k => ld_lane d L _ (0 : Fin 2) (32 * kk.val + k.val) 80 (by have := k2_lt kk; omega) (by omega) (k0_off14_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 80 + l'.val = k0_off15 kk 2 + 1 * l'.val
        rw [k0_off15_eq]
        show 80 + l'.val = 80 + 1 * l'.val
        omega
      · -- lane group 4: lanes 64 … 79
        intro x
        obtain ⟨l', rfl⟩ := exists_lane x
        show _ = scrSum d L (0 : Fin 2) fr kk.val (k2_lt kk) ((Rect.unit (s := S2x4x128) (k0_off13 kk) S1x1x16.size (k0_off13_inb kk)).emb (ix3 (0 : Fin 1) (0 : Fin 1) l'))
        simp only [Cert.Proof.KI.k0_pay158_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off12 kk (BitVec.ofNat 32 k.val)) S1x1x16.size (k0_off12_inb kk k)).toLoadRect fr (ix3 (0 : Fin 1) (0 : Fin 1) l')) rfl ?_
        refine (congrArg tree32 (funext fun k => ld_lane d L _ (0 : Fin 2) (32 * kk.val + k.val) 64 (by have := k2_lt kk; omega) (by omega) (k0_off12_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 64 + l'.val = k0_off13 kk 2 + 1 * l'.val
        rw [k0_off13_eq]
        show 64 + l'.val = 64 + 1 * l'.val
        omega
      · -- lane group 3: lanes 48 … 63
        intro x
        obtain ⟨l', rfl⟩ := exists_lane x
        show _ = scrSum d L (0 : Fin 2) fr kk.val (k2_lt kk) ((Rect.unit (s := S2x4x128) (k0_off11 kk) S1x1x16.size (k0_off11_inb kk)).emb (ix3 (0 : Fin 1) (0 : Fin 1) l'))
        simp only [Cert.Proof.KI.k0_pay124_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off10 kk (BitVec.ofNat 32 k.val)) S1x1x16.size (k0_off10_inb kk k)).toLoadRect fr (ix3 (0 : Fin 1) (0 : Fin 1) l')) rfl ?_
        refine (congrArg tree32 (funext fun k => ld_lane d L _ (0 : Fin 2) (32 * kk.val + k.val) 48 (by have := k2_lt kk; omega) (by omega) (k0_off10_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 48 + l'.val = k0_off11 kk 2 + 1 * l'.val
        rw [k0_off11_eq]
        show 48 + l'.val = 48 + 1 * l'.val
        omega
      · -- lane group 2: lanes 32 … 47
        intro x
        obtain ⟨l', rfl⟩ := exists_lane x
        show _ = scrSum d L (0 : Fin 2) fr kk.val (k2_lt kk) ((Rect.unit (s := S2x4x128) (k0_off9 kk) S1x1x16.size (k0_off9_inb kk)).emb (ix3 (0 : Fin 1) (0 : Fin 1) l'))
        simp only [Cert.Proof.KI.k0_pay92_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off8 kk (BitVec.ofNat 32 k.val)) S1x1x16.size (k0_off8_inb kk k)).toLoadRect fr (ix3 (0 : Fin 1) (0 : Fin 1) l')) rfl ?_
        refine (congrArg tree32 (funext fun k => ld_lane d L _ (0 : Fin 2) (32 * kk.val + k.val) 32 (by have := k2_lt kk; omega) (by omega) (k0_off8_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 32 + l'.val = k0_off9 kk 2 + 1 * l'.val
        rw [k0_off9_eq]
        show 32 + l'.val = 32 + 1 * l'.val
        omega
      · -- lane group 1: lanes 16 … 31
        intro x
        obtain ⟨l', rfl⟩ := exists_lane x
        show _ = scrSum d L (0 : Fin 2) fr kk.val (k2_lt kk) ((Rect.unit (s := S2x4x128) (k0_off7 kk) S1x1x16.size (k0_off7_inb kk)).emb (ix3 (0 : Fin 1) (0 : Fin 1) l'))
        simp only [Cert.Proof.KI.k0_pay61_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off6 kk (BitVec.ofNat 32 k.val)) S1x1x16.size (k0_off6_inb kk k)).toLoadRect fr (ix3 (0 : Fin 1) (0 : Fin 1) l')) rfl ?_
        refine (congrArg tree32 (funext fun k => ld_lane d L _ (0 : Fin 2) (32 * kk.val + k.val) 16 (by have := k2_lt kk; omega) (by omega) (k0_off6_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 16 + l'.val = k0_off7 kk 2 + 1 * l'.val
        rw [k0_off7_eq]
        show 16 + l'.val = 16 + 1 * l'.val
        omega
      · -- lane group 0: lanes 0 … 15
        intro x
        obtain ⟨l', rfl⟩ := exists_lane x
        show _ = scrSum d L (0 : Fin 2) fr kk.val (k2_lt kk) ((Rect.unit (s := S2x4x128) (k0_off5 kk) S1x1x16.size (k0_off5_inb kk)).emb (ix3 (0 : Fin 1) (0 : Fin 1) l'))
        simp only [Cert.Proof.KI.k0_pay30_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off4 kk (BitVec.ofNat 32 k.val)) S1x1x16.size (k0_off4_inb kk k)).toLoadRect fr (ix3 (0 : Fin 1) (0 : Fin 1) l')) rfl ?_
        refine (congrArg tree32 (funext fun k => ld_lane d L _ (0 : Fin 2) (32 * kk.val + k.val) 0 (by have := k2_lt kk; omega) (by omega) (k0_off4_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 0 + l'.val = k0_off5 kk 2 + 1 * l'.val
        rw [k0_off5_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (0 : Fin 2) (⟨kk.val, k2_lt kk⟩ : Fin 4) (⟨16 * 0 + l.val, by omega⟩ : Fin 128)) ∈ (Rect.unit (s := S2x4x128) (k0_off5 kk) S1x1x16.size (k0_off5_inb kk)).set
        rw [Rect.mem_set_unit, k0_off5_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (0 : Fin 2) (⟨kk.val, k2_lt kk⟩ : Fin 4) (⟨16 * 1 + l.val, by omega⟩ : Fin 128)) ∈ (Rect.unit (s := S2x4x128) (k0_off7 kk) S1x1x16.size (k0_off7_inb kk)).set
        rw [Rect.mem_set_unit, k0_off7_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (0 : Fin 2) (⟨kk.val, k2_lt kk⟩ : Fin 4) (⟨16 * 2 + l.val, by omega⟩ : Fin 128)) ∈ (Rect.unit (s := S2x4x128) (k0_off9 kk) S1x1x16.size (k0_off9_inb kk)).set
        rw [Rect.mem_set_unit, k0_off9_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (0 : Fin 2) (⟨kk.val, k2_lt kk⟩ : Fin 4) (⟨16 * 3 + l.val, by omega⟩ : Fin 128)) ∈ (Rect.unit (s := S2x4x128) (k0_off11 kk) S1x1x16.size (k0_off11_inb kk)).set
        rw [Rect.mem_set_unit, k0_off11_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (0 : Fin 2) (⟨kk.val, k2_lt kk⟩ : Fin 4) (⟨16 * 4 + l.val, by omega⟩ : Fin 128)) ∈ (Rect.unit (s := S2x4x128) (k0_off13 kk) S1x1x16.size (k0_off13_inb kk)).set
        rw [Rect.mem_set_unit, k0_off13_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (0 : Fin 2) (⟨kk.val, k2_lt kk⟩ : Fin 4) (⟨16 * 5 + l.val, by omega⟩ : Fin 128)) ∈ (Rect.unit (s := S2x4x128) (k0_off15 kk) S1x1x16.size (k0_off15_inb kk)).set
        rw [Rect.mem_set_unit, k0_off15_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (0 : Fin 2) (⟨kk.val, k2_lt kk⟩ : Fin 4) (⟨16 * 6 + l.val, by omega⟩ : Fin 128)) ∈ (Rect.unit (s := S2x4x128) (k0_off17 kk) S1x1x16.size (k0_off17_inb kk)).set
        rw [Rect.mem_set_unit, k0_off17_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (0 : Fin 2) (⟨kk.val, k2_lt kk⟩ : Fin 4) (⟨16 * 7 + l.val, by omega⟩ : Fin 128)) ∈ (Rect.unit (s := S2x4x128) (k0_off19 kk) S1x1x16.size (k0_off19_inb kk)).set
        rw [Rect.mem_set_unit, k0_off19_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc0_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k0_off19 kk) S1x1x16.size (k0_off19_inb kk)).set := hm
      rw [Rect.mem_set_unit, k0_off19_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 6
      intro hm
      have hm' : y ∈ (Rect.unit (s := S2x4x128) (k0_off17 kk) S1x1x16.size (k0_off17_inb kk)).set := hm
      rw [Rect.mem_set_unit, k0_off17_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 5
      intro hm
      have hm' : y ∈ (Rect.unit (s := S2x4x128) (k0_off15 kk) S1x1x16.size (k0_off15_inb kk)).set := hm
      rw [Rect.mem_set_unit, k0_off15_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 4
      intro hm
      have hm' : y ∈ (Rect.unit (s := S2x4x128) (k0_off13 kk) S1x1x16.size (k0_off13_inb kk)).set := hm
      rw [Rect.mem_set_unit, k0_off13_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 3
      intro hm
      have hm' : y ∈ (Rect.unit (s := S2x4x128) (k0_off11 kk) S1x1x16.size (k0_off11_inb kk)).set := hm
      rw [Rect.mem_set_unit, k0_off11_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 2
      intro hm
      have hm' : y ∈ (Rect.unit (s := S2x4x128) (k0_off9 kk) S1x1x16.size (k0_off9_inb kk)).set := hm
      rw [Rect.mem_set_unit, k0_off9_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 1
      intro hm
      have hm' : y ∈ (Rect.unit (s := S2x4x128) (k0_off7 kk) S1x1x16.size (k0_off7_inb kk)).set := hm
      rw [Rect.mem_set_unit, k0_off7_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 0
      intro hm
      have hm' : y ∈ (Rect.unit (s := S2x4x128) (k0_off5 kk) S1x1x16.size (k0_off5_inb kk)).set := hm
      rw [Rect.mem_set_unit, k0_off5_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩

set_option maxHeartbeats 4000000 in
/-- Trip `kk` of slot 0's inner loop while the output scratch is still held whole: the row scratch is only read; the output scratch ends with row `kk` of
    slot 0 at the trees of the 32 gathered rows, lane by lane, and is unchanged off that row.  (The contents are read
    through the whole buffer's view, `View.read … f = f`.) -/
theorem inner_trip0_first (k : Fin k0_t1_loop.trips) (kk : Fin k0_t2_loop.trips)
    (fr : Buf (Elt F) ((V d (cV L) (jV L)).loc cc0_scratch1)) (fob : Buf (Elt F) ((V d (cV L) (jV L)).loc cc0_scratch2))
    (v2 : BitVec 32) :
    iprop(((rwV).view.loc (V d (cV L) (jV L)) ↦[Finset.univ \ (rwK1).view.set]{fullShare} fr)
      ∗ ((obV).view.loc (V d (cV L) (jV L)) ↦{fullShare} fob))
      ⊢ (wp frame (wpE (defs₀ (F := F)) 𝒱₀ (V d (cV L) (jV L)) none) Set.univ
          (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k kk ())
          fun _ => iprop(((rwV).view.loc (V d (cV L) (jV L)) ↦[Finset.univ \ (rwK1).view.set]{fullShare} fr)
            ∗ ∃ fob'' : Buf (Elt F) ((V d (cV L) (jV L)).loc cc0_scratch2), ((obV).view.loc (V d (cV L) (jV L)) ↦{fullShare} fob'')
              ∗ ⌜(∀ (g : Fin 8) (l : Fin 16), View.read (Elt F) (Memref.whole cc0_scratch2).view fob'' (ix3 (0 : Fin 2) (⟨kk.val, k2_lt kk⟩ : Fin 4) (⟨16 * g.val + l.val, by omega⟩ : Fin 128))
                    = scrSum d L (0 : Fin 2) fr kk.val (k2_lt kk) (ix3 (0 : Fin 2) (⟨kk.val, k2_lt kk⟩ : Fin 4) (⟨16 * g.val + l.val, by omega⟩ : Fin 128)))
                ∧ (∀ y : S2x4x128.Idx, ¬((y 0).val = 0 ∧ (y 1).val = kk.val) →
                    View.read (Elt F) (Memref.whole cc0_scratch2).view fob'' y = View.read (Elt F) (Memref.whole cc0_scratch2).view fob y)⌝) : sProp 𝕄) := by
  iintro ⟨Hrw, Hob⟩
  unfold k0_t2_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc0_scratch2).view fob (scrSum d L (0 : Fin 2) fr kk.val (k2_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (0 : Fin 2) fr kk.val (k2_lt kk) ((Rect.unit (s := S2x4x128) (k0_off19 kk) S1x1x16.size (k0_off19_inb kk)).emb (ix3 (0 : Fin 1) (0 : Fin 1) l'))
        simp only [Cert.Proof.KI.k0_pay569_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off18 kk (BitVec.ofNat 32 k.val)) S1x1x16.size (k0_off18_inb kk k)).toLoadRect fr (ix3 (0 : Fin 1) (0 : Fin 1) l')) rfl ?_
        refine (congrArg tree32 (funext fun k => ld_lane d L _ (0 : Fin 2) (32 * kk.val + k.val) 112 (by have := k2_lt kk; omega) (by omega) (k0_off18_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 112 + l'.val = k0_off19 kk 2 + 1 * l'.val
        rw [k0_off19_eq]
        show 112 + l'.val = 112 + 1 * l'.val
        omega
      · -- lane group 6: lanes 96 … 111
        intro x
        obtain ⟨l', rfl⟩ := exists_lane x
        show _ = scrSum d L (0 : Fin 2) fr kk.val (k2_lt kk) ((Rect.unit (s := S2x4x128) (k0_off17 kk) S1x1x16.size (k0_off17_inb kk)).emb (ix3 (0 : Fin 1) (0 : Fin 1) l'))
        simp only [Cert.Proof.KI.k0_pay241_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off16 kk (BitVec.ofNat 32 k.val)) S1x1x16.size (k0_off16_inb kk k)).toLoadRect fr (ix3 (0 : Fin 1) (0 : Fin 1) l')) rfl ?_
        refine (congrArg tree32 (funext fun k => ld_lane d L _ (0 : Fin 2) (32 * kk.val + k.val) 96 (by have := k2_lt kk; omega) (by omega) (k0_off16_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 96 + l'.val = k0_off17 kk 2 + 1 * l'.val
        rw [k0_off17_eq]
        show 96 + l'.val = 96 + 1 * l'.val
        omega
      · -- lane group 5: lanes 80 … 95
        intro x
        obtain ⟨l', rfl⟩ := exists_lane x
        show _ = scrSum d L (0 : Fin 2) fr kk.val (k2_lt kk) ((Rect.unit (s := S2x4x128) (k0_off15 kk) S1x1x16.size (k0_off15_inb kk)).emb (ix3 (0 : Fin 1) (0 : Fin 1) l'))
        simp only [Cert.Proof.KI.k0_pay197_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off14 kk (BitVec.ofNat 32 k.val)) S1x1x16.size (k0_off14_inb kk k)).toLoadRect fr (ix3 (0 : Fin 1) (0 : Fin 1) l')) rfl ?_
        refine (congrArg tree32 (funext fun k => ld_lane d L _ (0 : Fin 2) (32 * kk.val + k.val) 80 (by have := k2_lt kk; omega) (by omega) (k0_off14_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 80 + l'.val = k0_off15 kk 2 + 1 * l'.val
        rw [k0_off15_eq]
        show 80 + l'.val = 80 + 1 * l'.val
        omega
      · -- lane group 4: lanes 64 … 79
        intro x
        obtain ⟨l', rfl⟩ := exists_lane x
        show _ = scrSum d L (0 : Fin 2) fr kk.val (k2_lt kk) ((Rect.unit (s := S2x4x128) (k0_off13 kk) S1x1x16.size (k0_off13_inb kk)).emb (ix3 (0 : Fin 1) (0 : Fin 1) l'))
        simp only [Cert.Proof.KI.k0_pay158_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off12 kk (BitVec.ofNat 32 k.val)) S1x1x16.size (k0_off12_inb kk k)).toLoadRect fr (ix3 (0 : Fin 1) (0 : Fin 1) l')) rfl ?_
        refine (congrArg tree32 (funext fun k => ld_lane d L _ (0 : Fin 2) (32 * kk.val + k.val) 64 (by have := k2_lt kk; omega) (by omega) (k0_off12_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 64 + l'.val = k0_off13 kk 2 + 1 * l'.val
        rw [k0_off13_eq]
        show 64 + l'.val = 64 + 1 * l'.val
        omega
      · -- lane group 3: lanes 48 … 63
        intro x
        obtain ⟨l', rfl⟩ := exists_lane x
        show _ = scrSum d L (0 : Fin 2) fr kk.val (k2_lt kk) ((Rect.unit (s := S2x4x128) (k0_off11 kk) S1x1x16.size (k0_off11_inb kk)).emb (ix3 (0 : Fin 1) (0 : Fin 1) l'))
        simp only [Cert.Proof.KI.k0_pay124_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off10 kk (BitVec.ofNat 32 k.val)) S1x1x16.size (k0_off10_inb kk k)).toLoadRect fr (ix3 (0 : Fin 1) (0 : Fin 1) l')) rfl ?_
        refine (congrArg tree32 (funext fun k => ld_lane d L _ (0 : Fin 2) (32 * kk.val + k.val) 48 (by have := k2_lt kk; omega) (by omega) (k0_off10_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 48 + l'.val = k0_off11 kk 2 + 1 * l'.val
        rw [k0_off11_eq]
        show 48 + l'.val = 48 + 1 * l'.val
        omega
      · -- lane group 2: lanes 32 … 47
        intro x
        obtain ⟨l', rfl⟩ := exists_lane x
        show _ = scrSum d L (0 : Fin 2) fr kk.val (k2_lt kk) ((Rect.unit (s := S2x4x128) (k0_off9 kk) S1x1x16.size (k0_off9_inb kk)).emb (ix3 (0 : Fin 1) (0 : Fin 1) l'))
        simp only [Cert.Proof.KI.k0_pay92_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off8 kk (BitVec.ofNat 32 k.val)) S1x1x16.size (k0_off8_inb kk k)).toLoadRect fr (ix3 (0 : Fin 1) (0 : Fin 1) l')) rfl ?_
        refine (congrArg tree32 (funext fun k => ld_lane d L _ (0 : Fin 2) (32 * kk.val + k.val) 32 (by have := k2_lt kk; omega) (by omega) (k0_off8_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 32 + l'.val = k0_off9 kk 2 + 1 * l'.val
        rw [k0_off9_eq]
        show 32 + l'.val = 32 + 1 * l'.val
        omega
      · -- lane group 1: lanes 16 … 31
        intro x
        obtain ⟨l', rfl⟩ := exists_lane x
        show _ = scrSum d L (0 : Fin 2) fr kk.val (k2_lt kk) ((Rect.unit (s := S2x4x128) (k0_off7 kk) S1x1x16.size (k0_off7_inb kk)).emb (ix3 (0 : Fin 1) (0 : Fin 1) l'))
        simp only [Cert.Proof.KI.k0_pay61_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off6 kk (BitVec.ofNat 32 k.val)) S1x1x16.size (k0_off6_inb kk k)).toLoadRect fr (ix3 (0 : Fin 1) (0 : Fin 1) l')) rfl ?_
        refine (congrArg tree32 (funext fun k => ld_lane d L _ (0 : Fin 2) (32 * kk.val + k.val) 16 (by have := k2_lt kk; omega) (by omega) (k0_off6_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 16 + l'.val = k0_off7 kk 2 + 1 * l'.val
        rw [k0_off7_eq]
        show 16 + l'.val = 16 + 1 * l'.val
        omega
      · -- lane group 0: lanes 0 … 15
        intro x
        obtain ⟨l', rfl⟩ := exists_lane x
        show _ = scrSum d L (0 : Fin 2) fr kk.val (k2_lt kk) ((Rect.unit (s := S2x4x128) (k0_off5 kk) S1x1x16.size (k0_off5_inb kk)).emb (ix3 (0 : Fin 1) (0 : Fin 1) l'))
        simp only [Cert.Proof.KI.k0_pay30_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off4 kk (BitVec.ofNat 32 k.val)) S1x1x16.size (k0_off4_inb kk k)).toLoadRect fr (ix3 (0 : Fin 1) (0 : Fin 1) l')) rfl ?_
        refine (congrArg tree32 (funext fun k => ld_lane d L _ (0 : Fin 2) (32 * kk.val + k.val) 0 (by have := k2_lt kk; omega) (by omega) (k0_off4_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 0 + l'.val = k0_off5 kk 2 + 1 * l'.val
        rw [k0_off5_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (0 : Fin 2) (⟨kk.val, k2_lt kk⟩ : Fin 4) (⟨16 * 0 + l.val, by omega⟩ : Fin 128)) ∈ (Rect.unit (s := S2x4x128) (k0_off5 kk) S1x1x16.size (k0_off5_inb kk)).set
        rw [Rect.mem_set_unit, k0_off5_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (0 : Fin 2) (⟨kk.val, k2_lt kk⟩ : Fin 4) (⟨16 * 1 + l.val, by omega⟩ : Fin 128)) ∈ (Rect.unit (s := S2x4x128) (k0_off7 kk) S1x1x16.size (k0_off7_inb kk)).set
        rw [Rect.mem_set_unit, k0_off7_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (0 : Fin 2) (⟨kk.val, k2_lt kk⟩ : Fin 4) (⟨16 * 2 + l.val, by omega⟩ : Fin 128)) ∈ (Rect.unit (s := S2x4x128) (k0_off9 kk) S1x1x16.size (k0_off9_inb kk)).set
        rw [Rect.mem_set_unit, k0_off9_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (0 : Fin 2) (⟨kk.val, k2_lt kk⟩ : Fin 4) (⟨16 * 3 + l.val, by omega⟩ : Fin 128)) ∈ (Rect.unit (s := S2x4x128) (k0_off11 kk) S1x1x16.size (k0_off11_inb kk)).set
        rw [Rect.mem_set_unit, k0_off11_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (0 : Fin 2) (⟨kk.val, k2_lt kk⟩ : Fin 4) (⟨16 * 4 + l.val, by omega⟩ : Fin 128)) ∈ (Rect.unit (s := S2x4x128) (k0_off13 kk) S1x1x16.size (k0_off13_inb kk)).set
        rw [Rect.mem_set_unit, k0_off13_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (0 : Fin 2) (⟨kk.val, k2_lt kk⟩ : Fin 4) (⟨16 * 5 + l.val, by omega⟩ : Fin 128)) ∈ (Rect.unit (s := S2x4x128) (k0_off15 kk) S1x1x16.size (k0_off15_inb kk)).set
        rw [Rect.mem_set_unit, k0_off15_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (0 : Fin 2) (⟨kk.val, k2_lt kk⟩ : Fin 4) (⟨16 * 6 + l.val, by omega⟩ : Fin 128)) ∈ (Rect.unit (s := S2x4x128) (k0_off17 kk) S1x1x16.size (k0_off17_inb kk)).set
        rw [Rect.mem_set_unit, k0_off17_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (0 : Fin 2) (⟨kk.val, k2_lt kk⟩ : Fin 4) (⟨16 * 7 + l.val, by omega⟩ : Fin 128)) ∈ (Rect.unit (s := S2x4x128) (k0_off19 kk) S1x1x16.size (k0_off19_inb kk)).set
        rw [Rect.mem_set_unit, k0_off19_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc0_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k0_off19 kk) S1x1x16.size (k0_off19_inb kk)).set := hm
      rw [Rect.mem_set_unit, k0_off19_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 6
      intro hm
      have hm' : y ∈ (Rect.unit (s := S2x4x128) (k0_off17 kk) S1x1x16.size (k0_off17_inb kk)).set := hm
      rw [Rect.mem_set_unit, k0_off17_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 5
      intro hm
      have hm' : y ∈ (Rect.unit (s := S2x4x128) (k0_off15 kk) S1x1x16.size (k0_off15_inb kk)).set := hm
      rw [Rect.mem_set_unit, k0_off15_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 4
      intro hm
      have hm' : y ∈ (Rect.unit (s := S2x4x128) (k0_off13 kk) S1x1x16.size (k0_off13_inb kk)).set := hm
      rw [Rect.mem_set_unit, k0_off13_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 3
      intro hm
      have hm' : y ∈ (Rect.unit (s := S2x4x128) (k0_off11 kk) S1x1x16.size (k0_off11_inb kk)).set := hm
      rw [Rect.mem_set_unit, k0_off11_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 2
      intro hm
      have hm' : y ∈ (Rect.unit (s := S2x4x128) (k0_off9 kk) S1x1x16.size (k0_off9_inb kk)).set := hm
      rw [Rect.mem_set_unit, k0_off9_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 1
      intro hm
      have hm' : y ∈ (Rect.unit (s := S2x4x128) (k0_off7 kk) S1x1x16.size (k0_off7_inb kk)).set := hm
      rw [Rect.mem_set_unit, k0_off7_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 0
      intro hm
      have hm' : y ∈ (Rect.unit (s := S2x4x128) (k0_off5 kk) S1x1x16.size (k0_off5_inb kk)).set := hm
      rw [Rect.mem_set_unit, k0_off5_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩

set_option maxHeartbeats 4000000 in
/-- Trip `kk` of slot 1's inner loop: the row scratch is only read; the output scratch ends with row `kk` of
    slot 1 at the trees of the 32 gathered rows, lane by lane, and is unchanged off that row.  (The contents are read
    through the whole buffer's view, `View.read … f = f`.) -/
theorem inner_trip1 (k : Fin k0_t1_loop.trips) (kk : Fin k0_t3_loop.trips)
    (fr : Buf (Elt F) ((V d (cV L) (jV L)).loc cc0_scratch1)) (fob : Buf (Elt F) ((V d (cV L) (jV L)).loc cc0_scratch2))
    (v2 : BitVec 32) (arg11 : BitVec 32) :
    iprop(((rwV).view.loc (V d (cV L) (jV L)) ↦[Finset.univ \ (rwK0).view.set]{fullShare} fr)
      ∗ ((obV).view.loc (V d (cV L) (jV L)) ↦[Finset.univ \ (obK0).view.set]{fullShare} fob))
      ⊢ (wp frame (wpE (defs₀ (F := F)) 𝒱₀ (V d (cV L) (jV L)) none) Set.univ
          (k0_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k arg11 kk ())
          fun _ => iprop(((rwV).view.loc (V d (cV L) (jV L)) ↦[Finset.univ \ (rwK0).view.set]{fullShare} fr)
            ∗ ∃ fob'' : Buf (Elt F) ((V d (cV L) (jV L)).loc cc0_scratch2), ((obV).view.loc (V d (cV L) (jV L)) ↦[Finset.univ \ (obK0).view.set]{fullShare} fob'')
              ∗ ⌜(∀ (g : Fin 8) (l : Fin 16), View.read (Elt F) (Memref.whole cc0_scratch2).view fob'' (ix3 (1 : Fin 2) (⟨kk.val, k3_lt kk⟩ : Fin 4) (⟨16 * g.val + l.val, by omega⟩ : Fin 128))
                    = scrSum d L (1 : Fin 2) fr kk.val (k3_lt kk) (ix3 (1 : Fin 2) (⟨kk.val, k3_lt kk⟩ : Fin 4) (⟨16 * g.val + l.val, by omega⟩ : Fin 128)))
                ∧ (∀ y : S2x4x128.Idx, ¬((y 0).val = 1 ∧ (y 1).val = kk.val) →
                    View.read (Elt F) (Memref.whole cc0_scratch2).view fob'' y = View.read (Elt F) (Memref.whole cc0_scratch2).view fob y)⌝) : sProp 𝕄) := by
  iintro ⟨Hrw, Hob⟩
  unfold k0_t3_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc0_scratch2).view fob (scrSum d L (1 : Fin 2) fr kk.val (k3_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (1 : Fin 2) fr kk.val (k3_lt kk) ((Rect.unit (s := S2x4x128) (k0_off38 kk) S1x1x16.size (k0_off38_inb kk)).emb (ix3 (0 : Fin 1) (0 : Fin 1) l'))
        simp only [Cert.Proof.KI.k0_pay570_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off37 kk (BitVec.ofNat 32 k.val)) S1x1x16.size (k0_off37_inb kk k)).toLoadRect fr (ix3 (0 : Fin 1) (0 : Fin 1) l')) rfl ?_
        refine (congrArg tree32 (funext fun k => ld_lane d L _ (1 : Fin 2) (32 * kk.val + k.val) 112 (by have := k3_lt kk; omega) (by omega) (k0_off37_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 112 + l'.val = k0_off38 kk 2 + 1 * l'.val
        rw [k0_off38_eq]
        show 112 + l'.val = 112 + 1 * l'.val
        omega
      · -- lane group 6: lanes 96 … 111
        intro x
        obtain ⟨l', rfl⟩ := exists_lane x
        show _ = scrSum d L (1 : Fin 2) fr kk.val (k3_lt kk) ((Rect.unit (s := S2x4x128) (k0_off36 kk) S1x1x16.size (k0_off36_inb kk)).emb (ix3 (0 : Fin 1) (0 : Fin 1) l'))
        simp only [Cert.Proof.KI.k0_pay525_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off35 kk (BitVec.ofNat 32 k.val)) S1x1x16.size (k0_off35_inb kk k)).toLoadRect fr (ix3 (0 : Fin 1) (0 : Fin 1) l')) rfl ?_
        refine (congrArg tree32 (funext fun k => ld_lane d L _ (1 : Fin 2) (32 * kk.val + k.val) 96 (by have := k3_lt kk; omega) (by omega) (k0_off35_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 96 + l'.val = k0_off36 kk 2 + 1 * l'.val
        rw [k0_off36_eq]
        show 96 + l'.val = 96 + 1 * l'.val
        omega
      · -- lane group 5: lanes 80 … 95
        intro x
        obtain ⟨l', rfl⟩ := exists_lane x
        show _ = scrSum d L (1 : Fin 2) fr kk.val (k3_lt kk) ((Rect.unit (s := S2x4x128) (k0_off34 kk) S1x1x16.size (k0_off34_inb kk)).emb (ix3 (0 : Fin 1) (0 : Fin 1) l'))
        simp only [Cert.Proof.KI.k0_pay481_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off33 kk (BitVec.ofNat 32 k.val)) S1x1x16.size (k0_off33_inb kk k)).toLoadRect fr (ix3 (0 : Fin 1) (0 : Fin 1) l')) rfl ?_
        refine (congrArg tree32 (funext fun k => ld_lane d L _ (1 : Fin 2) (32 * kk.val + k.val) 80 (by have := k3_lt kk; omega) (by omega) (k0_off33_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 80 + l'.val = k0_off34 kk 2 + 1 * l'.val
        rw [k0_off34_eq]
        show 80 + l'.val = 80 + 1 * l'.val
        omega
      · -- lane group 4: lanes 64 … 79
        intro x
        obtain ⟨l', rfl⟩ := exists_lane x
        show _ = scrSum d L (1 : Fin 2) fr kk.val (k3_lt kk) ((Rect.unit (s := S2x4x128) (k0_off32 kk) S1x1x16.size (k0_off32_inb kk)).emb (ix3 (0 : Fin 1) (0 : Fin 1) l'))
        simp only [Cert.Proof.KI.k0_pay442_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off31 kk (BitVec.ofNat 32 k.val)) S1x1x16.size (k0_off31_inb kk k)).toLoadRect fr (ix3 (0 : Fin 1) (0 : Fin 1) l')) rfl ?_
        refine (congrArg tree32 (funext fun k => ld_lane d L _ (1 : Fin 2) (32 * kk.val + k.val) 64 (by have := k3_lt kk; omega) (by omega) (k0_off31_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 64 + l'.val = k0_off32 kk 2 + 1 * l'.val
        rw [k0_off32_eq]
        show 64 + l'.val = 64 + 1 * l'.val
        omega
      · -- lane group 3: lanes 48 … 63
        intro x
        obtain ⟨l', rfl⟩ := exists_lane x
        show _ = scrSum d L (1 : Fin 2) fr kk.val (k3_lt kk) ((Rect.unit (s := S2x4x128) (k0_off30 kk) S1x1x16.size (k0_off30_inb kk)).emb (ix3 (0 : Fin 1) (0 : Fin 1) l'))
        simp only [Cert.Proof.KI.k0_pay408_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off29 kk (BitVec.ofNat 32 k.val)) S1x1x16.size (k0_off29_inb kk k)).toLoadRect fr (ix3 (0 : Fin 1) (0 : Fin 1) l')) rfl ?_
        refine (congrArg tree32 (funext fun k => ld_lane d L _ (1 : Fin 2) (32 * kk.val + k.val) 48 (by have := k3_lt kk; omega) (by omega) (k0_off29_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 48 + l'.val = k0_off30 kk 2 + 1 * l'.val
        rw [k0_off30_eq]
        show 48 + l'.val = 48 + 1 * l'.val
        omega
      · -- lane group 2: lanes 32 … 47
        intro x
        obtain ⟨l', rfl⟩ := exists_lane x
        show _ = scrSum d L (1 : Fin 2) fr kk.val (k3_lt kk) ((Rect.unit (s := S2x4x128) (k0_off28 kk) S1x1x16.size (k0_off28_inb kk)).emb (ix3 (0 : Fin 1) (0 : Fin 1) l'))
        simp only [Cert.Proof.KI.k0_pay376_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off27 kk (BitVec.ofNat 32 k.val)) S1x1x16.size (k0_off27_inb kk k)).toLoadRect fr (ix3 (0 : Fin 1) (0 : Fin 1) l')) rfl ?_
        refine (congrArg tree32 (funext fun k => ld_lane d L _ (1 : Fin 2) (32 * kk.val + k.val) 32 (by have := k3_lt kk; omega) (by omega) (k0_off27_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 32 + l'.val = k0_off28 kk 2 + 1 * l'.val
        rw [k0_off28_eq]
        show 32 + l'.val = 32 + 1 * l'.val
        omega
      · -- lane group 1: lanes 16 … 31
        intro x
        obtain ⟨l', rfl⟩ := exists_lane x
        show _ = scrSum d L (1 : Fin 2) fr kk.val (k3_lt kk) ((Rect.unit (s := S2x4x128) (k0_off26 kk) S1x1x16.size (k0_off26_inb kk)).emb (ix3 (0 : Fin 1) (0 : Fin 1) l'))
        simp only [Cert.Proof.KI.k0_pay345_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off25 kk (BitVec.ofNat 32 k.val)) S1x1x16.size (k0_off25_inb kk k)).toLoadRect fr (ix3 (0 : Fin 1) (0 : Fin 1) l')) rfl ?_
        refine (congrArg tree32 (funext fun k => ld_lane d L _ (1 : Fin 2) (32 * kk.val + k.val) 16 (by have := k3_lt kk; omega) (by omega) (k0_off25_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 16 + l'.val = k0_off26 kk 2 + 1 * l'.val
        rw [k0_off26_eq]
        show 16 + l'.val = 16 + 1 * l'.val
        omega
      · -- lane group 0: lanes 0 … 15
        intro x
        obtain ⟨l', rfl⟩ := exists_lane x
        show _ = scrSum d L (1 : Fin 2) fr kk.val (k3_lt kk) ((Rect.unit (s := S2x4x128) (k0_off24 kk) S1x1x16.size (k0_off24_inb kk)).emb (ix3 (0 : Fin 1) (0 : Fin 1) l'))
        simp only [Cert.Proof.KI.k0_pay314_lane]
        sl_unfold_run_names
        simp only [Cert.Proof.KI.k0_pay1_lane, Cert.Proof.KI.k0_pay2_lane, Cert.Proof.KI.k0_pay3_lane, Cert.Proof.KI.k0_pay4_lane, Cert.Proof.KI.k0_pay5_lane, Cert.Proof.KI.k0_pay6_lane, Cert.Proof.KI.k0_pay7_lane, Cert.Proof.KI.k0_pay8_lane, Cert.Proof.KI.k0_pay9_lane, Cert.Proof.KI.k0_pay10_lane, Cert.Proof.KI.k0_pay11_lane, Cert.Proof.KI.k0_pay12_lane, Cert.Proof.KI.k0_pay13_lane, Cert.Proof.KI.k0_pay14_lane, Cert.Proof.KI.k0_pay15_lane, Cert.Proof.KI.k0_pay16_lane, Cert.Proof.KI.k0_pay17_lane, Cert.Proof.KI.k0_pay18_lane, Cert.Proof.KI.k0_pay19_lane, Cert.Proof.KI.k0_pay20_lane, Cert.Proof.KI.k0_pay21_lane, Cert.Proof.KI.k0_pay22_lane, Cert.Proof.KI.k0_pay23_lane, Cert.Proof.KI.k0_pay24_lane, Cert.Proof.KI.k0_pay25_lane, Cert.Proof.KI.k0_pay26_lane, Cert.Proof.KI.k0_pay27_lane, Cert.Proof.KI.k0_pay28_lane, Cert.Proof.KI.k0_pay29_lane, Cert.Proof.KI.k0_pay30_lane, Cert.Proof.KI.k0_pay31_lane, Cert.Proof.KI.k0_pay32_lane, Cert.Proof.KI.k0_pay33_lane, Cert.Proof.KI.k0_pay34_lane, Cert.Proof.KI.k0_pay35_lane, Cert.Proof.KI.k0_pay36_lane, Cert.Proof.KI.k0_pay37_lane, Cert.Proof.KI.k0_pay38_lane, Cert.Proof.KI.k0_pay39_lane, Cert.Proof.KI.k0_pay40_lane, Cert.Proof.KI.k0_pay41_lane, Cert.Proof.KI.k0_pay42_lane, Cert.Proof.KI.k0_pay43_lane, Cert.Proof.KI.k0_pay44_lane, Cert.Proof.KI.k0_pay45_lane, Cert.Proof.KI.k0_pay46_lane, Cert.Proof.KI.k0_pay47_lane, Cert.Proof.KI.k0_pay48_lane, Cert.Proof.KI.k0_pay49_lane, Cert.Proof.KI.k0_pay50_lane, Cert.Proof.KI.k0_pay51_lane, Cert.Proof.KI.k0_pay52_lane, Cert.Proof.KI.k0_pay53_lane, Cert.Proof.KI.k0_pay54_lane, Cert.Proof.KI.k0_pay55_lane, Cert.Proof.KI.k0_pay56_lane, Cert.Proof.KI.k0_pay57_lane, Cert.Proof.KI.k0_pay58_lane, Cert.Proof.KI.k0_pay59_lane, Cert.Proof.KI.k0_pay60_lane, Cert.Proof.KI.k0_pay61_lane, Cert.Proof.KI.k0_pay62_lane, Cert.Proof.KI.k0_pay63_lane, Cert.Proof.KI.k0_pay64_lane, Cert.Proof.KI.k0_pay65_lane, Cert.Proof.KI.k0_pay66_lane, Cert.Proof.KI.k0_pay67_lane, Cert.Proof.KI.k0_pay68_lane, Cert.Proof.KI.k0_pay69_lane, Cert.Proof.KI.k0_pay70_lane, Cert.Proof.KI.k0_pay71_lane, Cert.Proof.KI.k0_pay72_lane, Cert.Proof.KI.k0_pay73_lane, Cert.Proof.KI.k0_pay74_lane, Cert.Proof.KI.k0_pay75_lane, Cert.Proof.KI.k0_pay76_lane, Cert.Proof.KI.k0_pay77_lane, Cert.Proof.KI.k0_pay78_lane, Cert.Proof.KI.k0_pay79_lane, Cert.Proof.KI.k0_pay80_lane, Cert.Proof.KI.k0_pay81_lane, Cert.Proof.KI.k0_pay82_lane, Cert.Proof.KI.k0_pay83_lane, Cert.Proof.KI.k0_pay84_lane, Cert.Proof.KI.k0_pay85_lane, Cert.Proof.KI.k0_pay86_lane, Cert.Proof.KI.k0_pay87_lane, Cert.Proof.KI.k0_pay88_lane, Cert.Proof.KI.k0_pay89_lane, Cert.Proof.KI.k0_pay90_lane, Cert.Proof.KI.k0_pay91_lane, Cert.Proof.KI.k0_pay92_lane, Cert.Proof.KI.k0_pay93_lane, Cert.Proof.KI.k0_pay94_lane, Cert.Proof.KI.k0_pay95_lane, Cert.Proof.KI.k0_pay96_lane, Cert.Proof.KI.k0_pay97_lane, Cert.Proof.KI.k0_pay98_lane, Cert.Proof.KI.k0_pay99_lane, Cert.Proof.KI.k0_pay100_lane, Cert.Proof.KI.k0_pay101_lane, Cert.Proof.KI.k0_pay102_lane, Cert.Proof.KI.k0_pay103_lane, Cert.Proof.KI.k0_pay104_lane, Cert.Proof.KI.k0_pay105_lane, Cert.Proof.KI.k0_pay106_lane, Cert.Proof.KI.k0_pay107_lane, Cert.Proof.KI.k0_pay108_lane, Cert.Proof.KI.k0_pay109_lane, Cert.Proof.KI.k0_pay110_lane, Cert.Proof.KI.k0_pay111_lane, Cert.Proof.KI.k0_pay112_lane, Cert.Proof.KI.k0_pay113_lane, Cert.Proof.KI.k0_pay114_lane, Cert.Proof.KI.k0_pay115_lane, Cert.Proof.KI.k0_pay116_lane, Cert.Proof.KI.k0_pay117_lane, Cert.Proof.KI.k0_pay118_lane, Cert.Proof.KI.k0_pay119_lane, Cert.Proof.KI.k0_pay120_lane, Cert.Proof.KI.k0_pay121_lane, Cert.Proof.KI.k0_pay122_lane, Cert.Proof.KI.k0_pay123_lane, Cert.Proof.KI.k0_pay124_lane, Cert.Proof.KI.k0_pay125_lane, Cert.Proof.KI.k0_pay126_lane, Cert.Proof.KI.k0_pay127_lane, Cert.Proof.KI.k0_pay128_lane, Cert.Proof.KI.k0_pay129_lane, Cert.Proof.KI.k0_pay130_lane, Cert.Proof.KI.k0_pay131_lane, Cert.Proof.KI.k0_pay132_lane, Cert.Proof.KI.k0_pay133_lane, Cert.Proof.KI.k0_pay134_lane, Cert.Proof.KI.k0_pay135_lane, Cert.Proof.KI.k0_pay136_lane, Cert.Proof.KI.k0_pay137_lane, Cert.Proof.KI.k0_pay138_lane, Cert.Proof.KI.k0_pay139_lane, Cert.Proof.KI.k0_pay140_lane, Cert.Proof.KI.k0_pay141_lane, Cert.Proof.KI.k0_pay142_lane, Cert.Proof.KI.k0_pay143_lane, Cert.Proof.KI.k0_pay144_lane, Cert.Proof.KI.k0_pay145_lane, Cert.Proof.KI.k0_pay146_lane, Cert.Proof.KI.k0_pay147_lane, Cert.Proof.KI.k0_pay148_lane, Cert.Proof.KI.k0_pay149_lane, Cert.Proof.KI.k0_pay150_lane, Cert.Proof.KI.k0_pay151_lane, Cert.Proof.KI.k0_pay152_lane, Cert.Proof.KI.k0_pay153_lane, Cert.Proof.KI.k0_pay154_lane, Cert.Proof.KI.k0_pay155_lane, Cert.Proof.KI.k0_pay156_lane, Cert.Proof.KI.k0_pay157_lane, Cert.Proof.KI.k0_pay158_lane, Cert.Proof.KI.k0_pay159_lane, Cert.Proof.KI.k0_pay160_lane, Cert.Proof.KI.k0_pay161_lane, Cert.Proof.KI.k0_pay162_lane, Cert.Proof.KI.k0_pay163_lane, Cert.Proof.KI.k0_pay164_lane, Cert.Proof.KI.k0_pay165_lane, Cert.Proof.KI.k0_pay166_lane, Cert.Proof.KI.k0_pay167_lane, Cert.Proof.KI.k0_pay168_lane, Cert.Proof.KI.k0_pay169_lane, Cert.Proof.KI.k0_pay170_lane, Cert.Proof.KI.k0_pay171_lane, Cert.Proof.KI.k0_pay172_lane, Cert.Proof.KI.k0_pay173_lane, Cert.Proof.KI.k0_pay174_lane, Cert.Proof.KI.k0_pay175_lane, Cert.Proof.KI.k0_pay176_lane, Cert.Proof.KI.k0_pay177_lane, Cert.Proof.KI.k0_pay178_lane, Cert.Proof.KI.k0_pay179_lane, Cert.Proof.KI.k0_pay180_lane, Cert.Proof.KI.k0_pay181_lane, Cert.Proof.KI.k0_pay182_lane, Cert.Proof.KI.k0_pay183_lane, Cert.Proof.KI.k0_pay184_lane, Cert.Proof.KI.k0_pay185_lane, Cert.Proof.KI.k0_pay186_lane, Cert.Proof.KI.k0_pay187_lane, Cert.Proof.KI.k0_pay188_lane, Cert.Proof.KI.k0_pay189_lane, Cert.Proof.KI.k0_pay190_lane, Cert.Proof.KI.k0_pay191_lane, Cert.Proof.KI.k0_pay192_lane, Cert.Proof.KI.k0_pay193_lane, Cert.Proof.KI.k0_pay194_lane, Cert.Proof.KI.k0_pay195_lane, Cert.Proof.KI.k0_pay196_lane, Cert.Proof.KI.k0_pay197_lane, Cert.Proof.KI.k0_pay198_lane, Cert.Proof.KI.k0_pay199_lane, Cert.Proof.KI.k0_pay200_lane, Cert.Proof.KI.k0_pay201_lane, Cert.Proof.KI.k0_pay202_lane, Cert.Proof.KI.k0_pay203_lane, Cert.Proof.KI.k0_pay204_lane, Cert.Proof.KI.k0_pay205_lane, Cert.Proof.KI.k0_pay206_lane, Cert.Proof.KI.k0_pay207_lane, Cert.Proof.KI.k0_pay208_lane, Cert.Proof.KI.k0_pay209_lane, Cert.Proof.KI.k0_pay210_lane, Cert.Proof.KI.k0_pay211_lane, Cert.Proof.KI.k0_pay212_lane, Cert.Proof.KI.k0_pay213_lane, Cert.Proof.KI.k0_pay214_lane, Cert.Proof.KI.k0_pay215_lane, Cert.Proof.KI.k0_pay216_lane, Cert.Proof.KI.k0_pay217_lane, Cert.Proof.KI.k0_pay218_lane, Cert.Proof.KI.k0_pay219_lane, Cert.Proof.KI.k0_pay220_lane, Cert.Proof.KI.k0_pay221_lane, Cert.Proof.KI.k0_pay222_lane, Cert.Proof.KI.k0_pay223_lane, Cert.Proof.KI.k0_pay224_lane, Cert.Proof.KI.k0_pay225_lane, Cert.Proof.KI.k0_pay226_lane, Cert.Proof.KI.k0_pay227_lane, Cert.Proof.KI.k0_pay228_lane, Cert.Proof.KI.k0_pay229_lane, Cert.Proof.KI.k0_pay230_lane, Cert.Proof.KI.k0_pay231_lane, Cert.Proof.KI.k0_pay232_lane, Cert.Proof.KI.k0_pay233_lane, Cert.Proof.KI.k0_pay234_lane, Cert.Proof.KI.k0_pay235_lane, Cert.Proof.KI.k0_pay236_lane, Cert.Proof.KI.k0_pay237_lane, Cert.Proof.KI.k0_pay238_lane, Cert.Proof.KI.k0_pay239_lane, Cert.Proof.KI.k0_pay240_lane, Cert.Proof.KI.k0_pay241_lane, Cert.Proof.KI.k0_pay242_lane, Cert.Proof.KI.k0_pay243_lane, Cert.Proof.KI.k0_pay244_lane, Cert.Proof.KI.k0_pay245_lane, Cert.Proof.KI.k0_pay246_lane, Cert.Proof.KI.k0_pay247_lane, Cert.Proof.KI.k0_pay248_lane, Cert.Proof.KI.k0_pay249_lane, Cert.Proof.KI.k0_pay250_lane, Cert.Proof.KI.k0_pay251_lane, Cert.Proof.KI.k0_pay252_lane, Cert.Proof.KI.k0_pay253_lane, Cert.Proof.KI.k0_pay254_lane, Cert.Proof.KI.k0_pay255_lane, Cert.Proof.KI.k0_pay256_lane, Cert.Proof.KI.k0_pay257_lane, Cert.Proof.KI.k0_pay258_lane, Cert.Proof.KI.k0_pay259_lane, Cert.Proof.KI.k0_pay260_lane, Cert.Proof.KI.k0_pay261_lane, Cert.Proof.KI.k0_pay262_lane, Cert.Proof.KI.k0_pay263_lane, Cert.Proof.KI.k0_pay264_lane, Cert.Proof.KI.k0_pay265_lane, Cert.Proof.KI.k0_pay266_lane, Cert.Proof.KI.k0_pay267_lane, Cert.Proof.KI.k0_pay268_lane, Cert.Proof.KI.k0_pay269_lane, Cert.Proof.KI.k0_pay270_lane, Cert.Proof.KI.k0_pay271_lane, Cert.Proof.KI.k0_pay272_lane, Cert.Proof.KI.k0_pay273_lane, Cert.Proof.KI.k0_pay274_lane, Cert.Proof.KI.k0_pay275_lane, Cert.Proof.KI.k0_pay276_lane, Cert.Proof.KI.k0_pay277_lane, Cert.Proof.KI.k0_pay278_lane, Cert.Proof.KI.k0_pay279_lane, Cert.Proof.KI.k0_pay280_lane, Cert.Proof.KI.k0_pay281_lane, Cert.Proof.KI.k0_pay282_lane, Cert.Proof.KI.k0_pay283_lane, Cert.Proof.KI.k0_pay284_lane, Cert.Proof.KI.k0_pay285_lane, Cert.Proof.KI.k0_pay286_lane, Cert.Proof.KI.k0_pay287_lane, Cert.Proof.KI.k0_pay288_lane, Cert.Proof.KI.k0_pay289_lane, Cert.Proof.KI.k0_pay290_lane, Cert.Proof.KI.k0_pay291_lane, Cert.Proof.KI.k0_pay292_lane, Cert.Proof.KI.k0_pay293_lane, Cert.Proof.KI.k0_pay294_lane, Cert.Proof.KI.k0_pay295_lane, Cert.Proof.KI.k0_pay296_lane, Cert.Proof.KI.k0_pay297_lane, Cert.Proof.KI.k0_pay298_lane, Cert.Proof.KI.k0_pay299_lane, Cert.Proof.KI.k0_pay300_lane, Cert.Proof.KI.k0_pay301_lane, Cert.Proof.KI.k0_pay302_lane, Cert.Proof.KI.k0_pay303_lane, Cert.Proof.KI.k0_pay304_lane, Cert.Proof.KI.k0_pay305_lane, Cert.Proof.KI.k0_pay306_lane, Cert.Proof.KI.k0_pay307_lane, Cert.Proof.KI.k0_pay308_lane, Cert.Proof.KI.k0_pay309_lane, Cert.Proof.KI.k0_pay310_lane, Cert.Proof.KI.k0_pay311_lane, Cert.Proof.KI.k0_pay312_lane, Cert.Proof.KI.k0_pay313_lane, Cert.Proof.KI.k0_pay314_lane, Cert.Proof.KI.k0_pay315_lane, Cert.Proof.KI.k0_pay316_lane, Cert.Proof.KI.k0_pay317_lane, Cert.Proof.KI.k0_pay318_lane, Cert.Proof.KI.k0_pay319_lane, Cert.Proof.KI.k0_pay320_lane, Cert.Proof.KI.k0_pay321_lane, Cert.Proof.KI.k0_pay322_lane, Cert.Proof.KI.k0_pay323_lane, Cert.Proof.KI.k0_pay324_lane, Cert.Proof.KI.k0_pay325_lane, Cert.Proof.KI.k0_pay326_lane, Cert.Proof.KI.k0_pay327_lane, Cert.Proof.KI.k0_pay328_lane, Cert.Proof.KI.k0_pay329_lane, Cert.Proof.KI.k0_pay330_lane, Cert.Proof.KI.k0_pay331_lane, Cert.Proof.KI.k0_pay332_lane, Cert.Proof.KI.k0_pay333_lane, Cert.Proof.KI.k0_pay334_lane, Cert.Proof.KI.k0_pay335_lane, Cert.Proof.KI.k0_pay336_lane, Cert.Proof.KI.k0_pay337_lane, Cert.Proof.KI.k0_pay338_lane, Cert.Proof.KI.k0_pay339_lane, Cert.Proof.KI.k0_pay340_lane, Cert.Proof.KI.k0_pay341_lane, Cert.Proof.KI.k0_pay342_lane, Cert.Proof.KI.k0_pay343_lane, Cert.Proof.KI.k0_pay344_lane, Cert.Proof.KI.k0_pay345_lane, Cert.Proof.KI.k0_pay346_lane, Cert.Proof.KI.k0_pay347_lane, Cert.Proof.KI.k0_pay348_lane, Cert.Proof.KI.k0_pay349_lane, Cert.Proof.KI.k0_pay350_lane, Cert.Proof.KI.k0_pay351_lane, Cert.Proof.KI.k0_pay352_lane, Cert.Proof.KI.k0_pay353_lane, Cert.Proof.KI.k0_pay354_lane, Cert.Proof.KI.k0_pay355_lane, Cert.Proof.KI.k0_pay356_lane, Cert.Proof.KI.k0_pay357_lane, Cert.Proof.KI.k0_pay358_lane, Cert.Proof.KI.k0_pay359_lane, Cert.Proof.KI.k0_pay360_lane, Cert.Proof.KI.k0_pay361_lane, Cert.Proof.KI.k0_pay362_lane, Cert.Proof.KI.k0_pay363_lane, Cert.Proof.KI.k0_pay364_lane, Cert.Proof.KI.k0_pay365_lane, Cert.Proof.KI.k0_pay366_lane, Cert.Proof.KI.k0_pay367_lane, Cert.Proof.KI.k0_pay368_lane, Cert.Proof.KI.k0_pay369_lane, Cert.Proof.KI.k0_pay370_lane, Cert.Proof.KI.k0_pay371_lane, Cert.Proof.KI.k0_pay372_lane, Cert.Proof.KI.k0_pay373_lane, Cert.Proof.KI.k0_pay374_lane, Cert.Proof.KI.k0_pay375_lane, Cert.Proof.KI.k0_pay376_lane, Cert.Proof.KI.k0_pay377_lane, Cert.Proof.KI.k0_pay378_lane, Cert.Proof.KI.k0_pay379_lane, Cert.Proof.KI.k0_pay380_lane, Cert.Proof.KI.k0_pay381_lane, Cert.Proof.KI.k0_pay382_lane, Cert.Proof.KI.k0_pay383_lane, Cert.Proof.KI.k0_pay384_lane, Cert.Proof.KI.k0_pay385_lane, Cert.Proof.KI.k0_pay386_lane, Cert.Proof.KI.k0_pay387_lane, Cert.Proof.KI.k0_pay388_lane, Cert.Proof.KI.k0_pay389_lane, Cert.Proof.KI.k0_pay390_lane, Cert.Proof.KI.k0_pay391_lane, Cert.Proof.KI.k0_pay392_lane, Cert.Proof.KI.k0_pay393_lane, Cert.Proof.KI.k0_pay394_lane, Cert.Proof.KI.k0_pay395_lane, Cert.Proof.KI.k0_pay396_lane, Cert.Proof.KI.k0_pay397_lane, Cert.Proof.KI.k0_pay398_lane, Cert.Proof.KI.k0_pay399_lane, Cert.Proof.KI.k0_pay400_lane, Cert.Proof.KI.k0_pay401_lane, Cert.Proof.KI.k0_pay402_lane, Cert.Proof.KI.k0_pay403_lane, Cert.Proof.KI.k0_pay404_lane, Cert.Proof.KI.k0_pay405_lane, Cert.Proof.KI.k0_pay406_lane, Cert.Proof.KI.k0_pay407_lane, Cert.Proof.KI.k0_pay408_lane, Cert.Proof.KI.k0_pay409_lane, Cert.Proof.KI.k0_pay410_lane, Cert.Proof.KI.k0_pay411_lane, Cert.Proof.KI.k0_pay412_lane, Cert.Proof.KI.k0_pay413_lane, Cert.Proof.KI.k0_pay414_lane, Cert.Proof.KI.k0_pay415_lane, Cert.Proof.KI.k0_pay416_lane, Cert.Proof.KI.k0_pay417_lane, Cert.Proof.KI.k0_pay418_lane, Cert.Proof.KI.k0_pay419_lane, Cert.Proof.KI.k0_pay420_lane, Cert.Proof.KI.k0_pay421_lane, Cert.Proof.KI.k0_pay422_lane, Cert.Proof.KI.k0_pay423_lane, Cert.Proof.KI.k0_pay424_lane, Cert.Proof.KI.k0_pay425_lane, Cert.Proof.KI.k0_pay426_lane, Cert.Proof.KI.k0_pay427_lane, Cert.Proof.KI.k0_pay428_lane, Cert.Proof.KI.k0_pay429_lane, Cert.Proof.KI.k0_pay430_lane, Cert.Proof.KI.k0_pay431_lane, Cert.Proof.KI.k0_pay432_lane, Cert.Proof.KI.k0_pay433_lane, Cert.Proof.KI.k0_pay434_lane, Cert.Proof.KI.k0_pay435_lane, Cert.Proof.KI.k0_pay436_lane, Cert.Proof.KI.k0_pay437_lane, Cert.Proof.KI.k0_pay438_lane, Cert.Proof.KI.k0_pay439_lane, Cert.Proof.KI.k0_pay440_lane, Cert.Proof.KI.k0_pay441_lane, Cert.Proof.KI.k0_pay442_lane, Cert.Proof.KI.k0_pay443_lane, Cert.Proof.KI.k0_pay444_lane, Cert.Proof.KI.k0_pay445_lane, Cert.Proof.KI.k0_pay446_lane, Cert.Proof.KI.k0_pay447_lane, Cert.Proof.KI.k0_pay448_lane, Cert.Proof.KI.k0_pay449_lane, Cert.Proof.KI.k0_pay450_lane, Cert.Proof.KI.k0_pay451_lane, Cert.Proof.KI.k0_pay452_lane, Cert.Proof.KI.k0_pay453_lane, Cert.Proof.KI.k0_pay454_lane, Cert.Proof.KI.k0_pay455_lane, Cert.Proof.KI.k0_pay456_lane, Cert.Proof.KI.k0_pay457_lane, Cert.Proof.KI.k0_pay458_lane, Cert.Proof.KI.k0_pay459_lane, Cert.Proof.KI.k0_pay460_lane, Cert.Proof.KI.k0_pay461_lane, Cert.Proof.KI.k0_pay462_lane, Cert.Proof.KI.k0_pay463_lane, Cert.Proof.KI.k0_pay464_lane, Cert.Proof.KI.k0_pay465_lane, Cert.Proof.KI.k0_pay466_lane, Cert.Proof.KI.k0_pay467_lane, Cert.Proof.KI.k0_pay468_lane, Cert.Proof.KI.k0_pay469_lane, Cert.Proof.KI.k0_pay470_lane, Cert.Proof.KI.k0_pay471_lane, Cert.Proof.KI.k0_pay472_lane, Cert.Proof.KI.k0_pay473_lane, Cert.Proof.KI.k0_pay474_lane, Cert.Proof.KI.k0_pay475_lane, Cert.Proof.KI.k0_pay476_lane, Cert.Proof.KI.k0_pay477_lane, Cert.Proof.KI.k0_pay478_lane, Cert.Proof.KI.k0_pay479_lane, Cert.Proof.KI.k0_pay480_lane, Cert.Proof.KI.k0_pay481_lane, Cert.Proof.KI.k0_pay482_lane, Cert.Proof.KI.k0_pay483_lane, Cert.Proof.KI.k0_pay484_lane, Cert.Proof.KI.k0_pay485_lane, Cert.Proof.KI.k0_pay486_lane, Cert.Proof.KI.k0_pay487_lane, Cert.Proof.KI.k0_pay488_lane, Cert.Proof.KI.k0_pay489_lane, Cert.Proof.KI.k0_pay490_lane, Cert.Proof.KI.k0_pay491_lane, Cert.Proof.KI.k0_pay492_lane, Cert.Proof.KI.k0_pay493_lane, Cert.Proof.KI.k0_pay494_lane, Cert.Proof.KI.k0_pay495_lane, Cert.Proof.KI.k0_pay496_lane, Cert.Proof.KI.k0_pay497_lane, Cert.Proof.KI.k0_pay498_lane, Cert.Proof.KI.k0_pay499_lane, Cert.Proof.KI.k0_pay500_lane, Cert.Proof.KI.k0_pay501_lane, Cert.Proof.KI.k0_pay502_lane, Cert.Proof.KI.k0_pay503_lane, Cert.Proof.KI.k0_pay504_lane, Cert.Proof.KI.k0_pay505_lane, Cert.Proof.KI.k0_pay506_lane, Cert.Proof.KI.k0_pay507_lane, Cert.Proof.KI.k0_pay508_lane, Cert.Proof.KI.k0_pay509_lane, Cert.Proof.KI.k0_pay510_lane, Cert.Proof.KI.k0_pay511_lane, Cert.Proof.KI.k0_pay512_lane, Cert.Proof.KI.k0_pay513_lane, Cert.Proof.KI.k0_pay514_lane, Cert.Proof.KI.k0_pay515_lane, Cert.Proof.KI.k0_pay516_lane, Cert.Proof.KI.k0_pay517_lane, Cert.Proof.KI.k0_pay518_lane, Cert.Proof.KI.k0_pay519_lane, Cert.Proof.KI.k0_pay520_lane, Cert.Proof.KI.k0_pay521_lane, Cert.Proof.KI.k0_pay522_lane, Cert.Proof.KI.k0_pay523_lane, Cert.Proof.KI.k0_pay524_lane, Cert.Proof.KI.k0_pay525_lane, Cert.Proof.KI.k0_pay526_lane, Cert.Proof.KI.k0_pay527_lane, Cert.Proof.KI.k0_pay528_lane, Cert.Proof.KI.k0_pay529_lane, Cert.Proof.KI.k0_pay530_lane, Cert.Proof.KI.k0_pay531_lane, Cert.Proof.KI.k0_pay532_lane, Cert.Proof.KI.k0_pay533_lane, Cert.Proof.KI.k0_pay534_lane, Cert.Proof.KI.k0_pay535_lane, Cert.Proof.KI.k0_pay536_lane, Cert.Proof.KI.k0_pay537_lane, Cert.Proof.KI.k0_pay538_lane, Cert.Proof.KI.k0_pay539_lane, Cert.Proof.KI.k0_pay540_lane, Cert.Proof.KI.k0_pay541_lane, Cert.Proof.KI.k0_pay542_lane, Cert.Proof.KI.k0_pay543_lane, Cert.Proof.KI.k0_pay544_lane, Cert.Proof.KI.k0_pay545_lane, Cert.Proof.KI.k0_pay546_lane, Cert.Proof.KI.k0_pay547_lane, Cert.Proof.KI.k0_pay548_lane, Cert.Proof.KI.k0_pay549_lane, Cert.Proof.KI.k0_pay550_lane, Cert.Proof.KI.k0_pay551_lane, Cert.Proof.KI.k0_pay552_lane, Cert.Proof.KI.k0_pay553_lane, Cert.Proof.KI.k0_pay554_lane, Cert.Proof.KI.k0_pay555_lane, Cert.Proof.KI.k0_pay556_lane, Cert.Proof.KI.k0_pay557_lane, Cert.Proof.KI.k0_pay558_lane, Cert.Proof.KI.k0_pay559_lane, Cert.Proof.KI.k0_pay560_lane, Cert.Proof.KI.k0_pay561_lane, Cert.Proof.KI.k0_pay562_lane, Cert.Proof.KI.k0_pay563_lane, Cert.Proof.KI.k0_pay564_lane, Cert.Proof.KI.k0_pay565_lane, Cert.Proof.KI.k0_pay566_lane, Cert.Proof.KI.k0_pay567_lane, Cert.Proof.KI.k0_pay568_lane, Cert.Proof.KI.k0_pay569_lane, Cert.Proof.KI.k0_pay570_lane, Cert.Proof.KI.cast_16]
        refine Eq.trans (b := tree32 fun k : Fin 32 => View.readAt (Elt F) (Memref.whole cc0_scratch1).view
          (Rect.unit (s := S2x128x128) (k0_off23 kk (BitVec.ofNat 32 k.val)) S1x1x16.size (k0_off23_inb kk k)).toLoadRect fr (ix3 (0 : Fin 1) (0 : Fin 1) l')) rfl ?_
        refine (congrArg tree32 (funext fun k => ld_lane d L _ (1 : Fin 2) (32 * kk.val + k.val) 0 (by have := k3_lt kk; omega) (by omega) (k0_off23_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 0 + l'.val = k0_off24 kk 2 + 1 * l'.val
        rw [k0_off24_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (1 : Fin 2) (⟨kk.val, k3_lt kk⟩ : Fin 4) (⟨16 * 0 + l.val, by omega⟩ : Fin 128)) ∈ (Rect.unit (s := S2x4x128) (k0_off24 kk) S1x1x16.size (k0_off24_inb kk)).set
        rw [Rect.mem_set_unit, k0_off24_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (1 : Fin 2) (⟨kk.val, k3_lt kk⟩ : Fin 4) (⟨16 * 1 + l.val, by omega⟩ : Fin 128)) ∈ (Rect.unit (s := S2x4x128) (k0_off26 kk) S1x1x16.size (k0_off26_inb kk)).set
        rw [Rect.mem_set_unit, k0_off26_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (1 : Fin 2) (⟨kk.val, k3_lt kk⟩ : Fin 4) (⟨16 * 2 + l.val, by omega⟩ : Fin 128)) ∈ (Rect.unit (s := S2x4x128) (k0_off28 kk) S1x1x16.size (k0_off28_inb kk)).set
        rw [Rect.mem_set_unit, k0_off28_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (1 : Fin 2) (⟨kk.val, k3_lt kk⟩ : Fin 4) (⟨16 * 3 + l.val, by omega⟩ : Fin 128)) ∈ (Rect.unit (s := S2x4x128) (k0_off30 kk) S1x1x16.size (k0_off30_inb kk)).set
        rw [Rect.mem_set_unit, k0_off30_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (1 : Fin 2) (⟨kk.val, k3_lt kk⟩ : Fin 4) (⟨16 * 4 + l.val, by omega⟩ : Fin 128)) ∈ (Rect.unit (s := S2x4x128) (k0_off32 kk) S1x1x16.size (k0_off32_inb kk)).set
        rw [Rect.mem_set_unit, k0_off32_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (1 : Fin 2) (⟨kk.val, k3_lt kk⟩ : Fin 4) (⟨16 * 5 + l.val, by omega⟩ : Fin 128)) ∈ (Rect.unit (s := S2x4x128) (k0_off34 kk) S1x1x16.size (k0_off34_inb kk)).set
        rw [Rect.mem_set_unit, k0_off34_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (1 : Fin 2) (⟨kk.val, k3_lt kk⟩ : Fin 4) (⟨16 * 6 + l.val, by omega⟩ : Fin 128)) ∈ (Rect.unit (s := S2x4x128) (k0_off36 kk) S1x1x16.size (k0_off36_inb kk)).set
        rw [Rect.mem_set_unit, k0_off36_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (1 : Fin 2) (⟨kk.val, k3_lt kk⟩ : Fin 4) (⟨16 * 7 + l.val, by omega⟩ : Fin 128)) ∈ (Rect.unit (s := S2x4x128) (k0_off38 kk) S1x1x16.size (k0_off38_inb kk)).set
        rw [Rect.mem_set_unit, k0_off38_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc0_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k0_off38 kk) S1x1x16.size (k0_off38_inb kk)).set := hm
      rw [Rect.mem_set_unit, k0_off38_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 6
      intro hm
      have hm' : y ∈ (Rect.unit (s := S2x4x128) (k0_off36 kk) S1x1x16.size (k0_off36_inb kk)).set := hm
      rw [Rect.mem_set_unit, k0_off36_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 5
      intro hm
      have hm' : y ∈ (Rect.unit (s := S2x4x128) (k0_off34 kk) S1x1x16.size (k0_off34_inb kk)).set := hm
      rw [Rect.mem_set_unit, k0_off34_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 4
      intro hm
      have hm' : y ∈ (Rect.unit (s := S2x4x128) (k0_off32 kk) S1x1x16.size (k0_off32_inb kk)).set := hm
      rw [Rect.mem_set_unit, k0_off32_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 3
      intro hm
      have hm' : y ∈ (Rect.unit (s := S2x4x128) (k0_off30 kk) S1x1x16.size (k0_off30_inb kk)).set := hm
      rw [Rect.mem_set_unit, k0_off30_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 2
      intro hm
      have hm' : y ∈ (Rect.unit (s := S2x4x128) (k0_off28 kk) S1x1x16.size (k0_off28_inb kk)).set := hm
      rw [Rect.mem_set_unit, k0_off28_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 1
      intro hm
      have hm' : y ∈ (Rect.unit (s := S2x4x128) (k0_off26 kk) S1x1x16.size (k0_off26_inb kk)).set := hm
      rw [Rect.mem_set_unit, k0_off26_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 0
      intro hm
      have hm' : y ∈ (Rect.unit (s := S2x4x128) (k0_off24 kk) S1x1x16.size (k0_off24_inb kk)).set := hm
      rw [Rect.mem_set_unit, k0_off24_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩

end Inner

end Cert.Proof.Tile

end
-- ==== Proof.BodyInnerV.lean ====
import proofs.«205366_g3083786518796_cont_9to1_852_38_alg».proof.Proof.BodyInner
import proofs.«205366_g3083786518796_cont_9to1_852_38_alg».proof.Proof.BodyInvV
import Idealize.ShloMosaic.Lib.Writes
import Idealize.ShloMosaic.Lib.ValueIdx

noncomputable section

/-!
# The inner loops' trips against the invariant with the contents named

While a slot of the row scratch holds the 128 table rows its index chunk names, one trip of that slot's inner loop
adds one row to "the rows of the slot of the output scratch already summed hold the tree sums of their 32 table rows".
-/

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KI (tree32)

variable {F : FTy → Type}

variable [FloatOps F]
variable {U : Type} [URA U] [CountersIn U]

local notation "𝕄" => MT nD τ sig (HIx 3) (Elt F) ℕ U ℕ
local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

section Inner
variable (d : Dev nD) (L : grid0.Coords)
variable (Tx : S10000x128.Idx → Elt F .f32) (Ix : S32x10496.Idx → Elt F .i32)

/-- One trip of slot 0's inner loop against the invariant "the rows already summed hold their sums": the trip's row gets
    the tree of its 32 rows of the row scratch, which under `RowsOK` are the table rows the index chunk names. -/
theorem inner_region0 (n : ℕ) (h : Buf (Elt F) ((V d (cV L) (jV L)).loc cc0_scratch1)) (hr : RowsOK L Tx Ix (0 : Fin 2) n h)
    (k : Fin k0_t1_loop.trips) (v2 : BitVec 32) (kk : Fin k0_t2_loop.trips) (x : PUnit) :
    innerInv0 d L Tx Ix (Finset.univ \ (obK1).view.set) n h kk.val x
      ⊢ (wp frame (wpE (defs₀ (F := F)) 𝒱₀ (V d (cV L) (jV L)) none) Set.univ
          (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k kk x)
          (fun y => innerInv0 d L Tx Ix (Finset.univ \ (obK1).view.set) n h (kk.val + 1) y) : sProp 𝕄) := by
  cases x
  unfold innerInv0
  iintro ⟨%fob', %hs, Hrw, Hob⟩
  iapply (wp_wand_r frame _ Set.univ)
  isplitl [Hrw Hob]
  · iapply (inner_trip0 d L k kk h fob' v2)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k2_lt kk⟩ : Fin 4) := Fin.ext hrk
        subst er
        refine (p1 g l).trans ?_
        unfold scrSum rowSum
        refine congrArg Cert.Proof.KI.tree32 (funext fun q => ?_)
        show h (ix3 (0 : Fin 2) (⟨32 * kk.val + q.val, by have := k2_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k2_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

/-- One trip of slot 0's inner loop against the invariant "the rows already summed hold their sums": the trip's row gets
    the tree of its 32 rows of the row scratch, which under `RowsOK` are the table rows the index chunk names. -/
theorem inner_region0_first (n : ℕ) (h : Buf (Elt F) ((V d (cV L) (jV L)).loc cc0_scratch1)) (hr : RowsOK L Tx Ix (0 : Fin 2) n h)
    (k : Fin k0_t1_loop.trips) (v2 : BitVec 32) (kk : Fin k0_t2_loop.trips) (x : PUnit) :
    innerInv0 d L Tx Ix (Finset.univ) n h kk.val x
      ⊢ (wp frame (wpE (defs₀ (F := F)) 𝒱₀ (V d (cV L) (jV L)) none) Set.univ
          (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k kk x)
          (fun y => innerInv0 d L Tx Ix (Finset.univ) n h (kk.val + 1) y) : sProp 𝕄) := by
  cases x
  unfold innerInv0
  iintro ⟨%fob', %hs, Hrw, Hob⟩
  iapply (wp_wand_r frame _ Set.univ)
  isplitl [Hrw Hob]
  · iapply (inner_trip0_first d L k kk h fob' v2)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k2_lt kk⟩ : Fin 4) := Fin.ext hrk
        subst er
        refine (p1 g l).trans ?_
        unfold scrSum rowSum
        refine congrArg Cert.Proof.KI.tree32 (funext fun q => ?_)
        show h (ix3 (0 : Fin 2) (⟨32 * kk.val + q.val, by have := k2_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k2_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

/-- One trip of slot 1's inner loop against the invariant "the rows already summed hold their sums": the trip's row gets
    the tree of its 32 rows of the row scratch, which under `RowsOK` are the table rows the index chunk names. -/
theorem inner_region1 (n : ℕ) (h : Buf (Elt F) ((V d (cV L) (jV L)).loc cc0_scratch1)) (hr : RowsOK L Tx Ix (1 : Fin 2) n h)
    (k : Fin k0_t1_loop.trips) (v2 : BitVec 32) (arg11 : BitVec 32) (kk : Fin k0_t3_loop.trips) (x : PUnit) :
    innerInv1 d L Tx Ix n h kk.val x
      ⊢ (wp frame (wpE (defs₀ (F := F)) 𝒱₀ (V d (cV L) (jV L)) none) Set.univ
          (k0_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k arg11 kk x)
          (fun y => innerInv1 d L Tx Ix n h (kk.val + 1) y) : sProp 𝕄) := by
  cases x
  unfold innerInv1
  iintro ⟨%fob', %hs, Hrw, Hob⟩
  iapply (wp_wand_r frame _ Set.univ)
  isplitl [Hrw Hob]
  · iapply (inner_trip1 d L k kk h fob' v2 arg11)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k3_lt kk⟩ : Fin 4) := Fin.ext hrk
        subst er
        refine (p1 g l).trans ?_
        unfold scrSum rowSum
        refine congrArg Cert.Proof.KI.tree32 (funext fun q => ?_)
        show h (ix3 (1 : Fin 2) (⟨32 * kk.val + q.val, by have := k3_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k3_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

end Inner

end Cert.Proof.Tile

end
-- ==== Proof.GatherRead.lean ====
/-
  What an indirect gather of 128 rows of the table leaves in its destination, read at an index.

  The gather's destination is a [128,128] slot; entry p of the 128-entry offset list names a row of the [10000,128]
  table; after the gather, row p of the destination is that row of the table: the element at (p, j) is the table's
  element at (offs[p], j).
-/
import proofs.«205366_g3083786518796_cont_9to1_852_38_alg».proof.Proof.Gen.KernelIdeal
import Idealize.ShloMosaic.Lib.SparseCore.Stream
import Idealize.ShloMosaic.Lib.ValueIdx
import proofs.«205366_g3083786518796_cont_9to1_852_38_alg».proof.Proof.ScTileParts

noncomputable section

namespace Cert.Proof.GatherRead

open Cert.KernelIdeal Cert.KernelIdeal.Gen
open Idealize.ShloMosaic Idealize.ShloMosaic.ValueIdx

variable {F : FTy → Type}

/-- The row the offset list names for destination row `p`: entry `p` of the list (a rank-one list's `p`-th word in
    row-major order is its `p`-th word). -/
theorem rows_apply (offs : S128.Idx → Elt F .i32) (hn : S128.numel = S128x128.size (gathers_S10000x128_S128x128).axis')
    (hin : ∀ x, (offs x).toNat < S10000x128.size (gathers_S10000x128_S128x128).axis) (p : Fin 128) :
    (SparseCore.rows (F := F) offs hn hin p).val = (offs (ix1 p)).toNat := by
  unfold SparseCore.rows
  show (offs (S128.rowMajor.symm (Fin.cast hn.symm p))).toNat = _
  congr 2
  apply S128.rowMajor.injective
  rw [Equiv.apply_symm_apply]
  apply Fin.ext
  rw [Shape.rowMajor_val_one]
  rfl

/-- THE GATHER'S PAYLOAD AT AN INDEX: element (p, j) of the destination is the table's element at (offs[p], j). -/
theorem gatherPayload_apply (Tx : S10000x128.Idx → Elt F .f32) (offs : S128.Idx → Elt F .i32)
    (hn : S128.numel = S128x128.size (gathers_S10000x128_S128x128).axis')
    (hin : ∀ x, (offs x).toNat < S10000x128.size (gathers_S10000x128_S128x128).axis) (p j : Fin 128) :
    SparseCore.gatherPayload (F := F) gathers_S10000x128_S128x128 Tx (SparseCore.rows (F := F) offs hn hin) (ix2 p j)
      = Tx (ix2 (⟨(offs (ix1 p)).toNat, hin _⟩ : Fin 10000) j) := by
  unfold SparseCore.gatherPayload
  congr 1
  funext b
  refine Fin.ext ?_
  match b with
  | ⟨0, _⟩ =>
    show ((gathers_S10000x128_S128x128).idx (SparseCore.rows (F := F) offs hn hin) (ix2 p j) (gathers_S10000x128_S128x128).axis).val = _
    rw [Shape.Gathers.idx_axis]
    exact rows_apply offs hn hin p
  | ⟨1, _⟩ =>
    exact Shape.Gathers.idx_of_ne gathers_S10000x128_S128x128 _ (ix2 p j) (⟨1, by decide⟩ : Fin S10000x128.rank) (by decide)

/-! ## The offsets the kernel gathers by: a window of the index scratch, which holds the worker's row of the index table -/

/-- The `n`-th window of 128 entries of the index scratch, read at entry `p`: entry `128·n + p` of the scratch. -/
theorem ixWin_read (n : ℕ) (h : ∀ a, (![128 * n] : Fin 1 → ℕ) a + S128.size a ≤ S10496.size a) (g : S10496.Idx → Elt F .i32)
    (p : Fin 128) (hp : 128 * n + p.val < 10496) :
    (Cert.Proof.Tile.ixWinK n h).view.read (Elt F) g (ix1 p) = g (ix1 (⟨128 * n + p.val, hp⟩ : Fin 10496)) := by
  rw [View.read_apply]
  show g ((Rect.unit (s := S10496) ![128 * n] S128.size h).emb (ix1 p)) = _
  congr 1
  funext a
  refine Fin.ext ?_
  match a with
  | ⟨0, _⟩ =>
    rw [Rect.emb_apply]
    show 128 * n + 1 * p.val = 128 * n + p.val
    omega

/-- THE GATHER OF A WINDOW, AT AN INDEX: with the index scratch holding the worker's row of the index table `Ix` and
    the offsets its `n`-th window, element (p, j) of the destination is the table's element at the row that entry
    `128·n + p` of the worker's row names, lane j. -/
theorem gather_window_apply (L : grid0.Coords) (Tx : S10000x128.Idx → Elt F .f32) (Ix : S32x10496.Idx → BitVec 32)
    (n : ℕ) (h : ∀ a, (![128 * n] : Fin 1 → ℕ) a + S128.size a ≤ S10496.size a)
    (hn : S128.numel = S128x128.size (gathers_S10000x128_S128x128).axis')
    (hin : ∀ x, ((Cert.Proof.Tile.ixWinK n h).view.read (Elt F) ((Cert.Proof.Tile.iRowK L).view.read (Elt F) Ix) x).toNat
      < S10000x128.size (gathers_S10000x128_S128x128).axis)
    (p j : Fin 128) (hp : 128 * n + p.val < 10496) (hr : (Ix (ix2 (Cert.Proof.KI.wid (Cert.Proof.KI.cL0 L) (Cert.Proof.KI.jL0 L)) (⟨128 * n + p.val, hp⟩ : Fin 10496))).toNat < 10000) :
    SparseCore.gatherPayload (F := F) gathers_S10000x128_S128x128 Tx
        (SparseCore.rows (F := F) ((Cert.Proof.Tile.ixWinK n h).view.read (Elt F) ((Cert.Proof.Tile.iRowK L).view.read (Elt F) Ix)) hn hin) (ix2 p j)
      = Tx (ix2 (⟨(Ix (ix2 (Cert.Proof.KI.wid (Cert.Proof.KI.cL0 L) (Cert.Proof.KI.jL0 L)) (⟨128 * n + p.val, hp⟩ : Fin 10496))).toNat, hr⟩ : Fin 10000) j) := by
  rw [gatherPayload_apply]
  congr 2
  refine Fin.ext ?_
  show ((Cert.Proof.Tile.ixWinK n h).view.read (Elt F) ((Cert.Proof.Tile.iRowK L).view.read (Elt F) Ix) (ix1 p)).toNat = _
  rw [ixWin_read n h _ p hp, View.read_apply, Cert.Proof.KI.iRow_emb L _ hp]
  rfl

end Cert.Proof.GatherRead

end
-- ==== Proof.GSumWindow.lean ====
/-
  The link between one gathered window and the neighbour sums.

  Worker w's output row 320·w + 4·n + r' (n < 80 the window's number, r' < 4) sums, over k < 32, the table rows named
  by entries 32·(4·n + r') + k = 128·n + (32·r' + k) of the worker's index row: entries 32·r' + k of the n-th window
  of 128.  So when a slot holds the n-th window's gather — its row p the table row that entry 128·n + p names — the
  output row is the tree sum of the slot's rows 32·r' … 32·r' + 31, lane by lane.
-/
import proofs.«205366_g3083786518796_cont_9to1_852_38_alg».proof.Proof.GSum
import proofs.«205366_g3083786518796_cont_9to1_852_38_alg».proof.Proof.GatherRead

noncomputable section

namespace Cert.Proof.KI

open Cert.KernelIdeal
open Idealize.ShloMosaic Idealize.ShloMosaic.ValueIdx

variable {F : FTy → Type} [FloatOps F]

/-- THE WINDOW'S SUMS: a slot holding the `n`-th window's gather gives rows 4·n … 4·n + 3 of the worker's neighbour sums
    as the tree sums of its four groups of 32 rows. -/
theorem gsumF_window (Tx : S10000x128.Idx → F .f32) (Ix : S32x10496.Idx → BitVec 32) (w : Fin 32) (n : ℕ) (hn : n < 80)
    (slot : S128x128.Idx → F .f32) (hin : ∀ k : Fin 10496, (Ix (ix2 w k)).toNat < 10000)
    (hslot : ∀ (p j : Fin 128), slot (ix2 p j)
      = Tx (ix2 (⟨(Ix (ix2 w (⟨128 * n + p.val, by omega⟩ : Fin 10496))).toNat, hin _⟩ : Fin 10000) j))
    (r' : Fin 4) (j : Fin 128) :
    gsumF Tx Ix (ix2 (⟨320 * w.val + 4 * n + r'.val, by omega⟩ : Fin 10240) j)
      = tree32 fun k : Fin 32 => slot (ix2 (⟨32 * r'.val + k.val, by omega⟩ : Fin 128) j) := by
  have e1 : (320 * w.val + 4 * n + r'.val) / 320 = w.val := by omega
  have e2 : (320 * w.val + 4 * n + r'.val) % 320 = 4 * n + r'.val := by omega
  show (tree32 fun k : Fin 32 =>
    Tx (ix2
      ⟨(Ix (ix2 ⟨(320 * w.val + 4 * n + r'.val) / 320, by omega⟩
          ⟨32 * ((320 * w.val + 4 * n + r'.val) % 320) + k.val, by omega⟩)).toNat % 10000, Nat.mod_lt _ (by decide)⟩ j)) = _
  congr 1
  funext k
  rw [hslot]
  have hI : Ix (ix2 (⟨(320 * w.val + 4 * n + r'.val) / 320, by omega⟩ : Fin 32)
        (⟨32 * ((320 * w.val + 4 * n + r'.val) % 320) + k.val, by omega⟩ : Fin 10496))
      = Ix (ix2 w (⟨128 * n + (32 * r'.val + k.val), by omega⟩ : Fin 10496)) := by
    congr 1
    have ha : (⟨(320 * w.val + 4 * n + r'.val) / 320, by omega⟩ : Fin 32) = w := Fin.ext e1
    have hb : (⟨32 * ((320 * w.val + 4 * n + r'.val) % 320) + k.val, by omega⟩ : Fin 10496) = ⟨128 * n + (32 * r'.val + k.val), by omega⟩ :=
      Fin.ext (by show 32 * ((320 * w.val + 4 * n + r'.val) % 320) + k.val = 128 * n + (32 * r'.val + k.val); omega)
    rw [ha, hb]
  congr 2
  refine Fin.ext ?_
  show (Ix (ix2 (⟨(320 * w.val + 4 * n + r'.val) / 320, by omega⟩ : Fin 32)
        (⟨32 * ((320 * w.val + 4 * n + r'.val) % 320) + k.val, by omega⟩ : Fin 10496))).toNat % 10000 = _
  rw [hI, Nat.mod_eq_of_lt (hin _)]

/-- The same at lane `16·g + l` of the eight 16-lane groups of a row (the form the vector unit's additions have). -/
theorem gsumF_window_lanes (Tx : S10000x128.Idx → F .f32) (Ix : S32x10496.Idx → BitVec 32) (w : Fin 32) (n : ℕ) (hn : n < 80)
    (slot : S128x128.Idx → F .f32) (hin : ∀ k : Fin 10496, (Ix (ix2 w k)).toNat < 10000)
    (hslot : ∀ (p j : Fin 128), slot (ix2 p j)
      = Tx (ix2 (⟨(Ix (ix2 w (⟨128 * n + p.val, by omega⟩ : Fin 10496))).toNat, hin _⟩ : Fin 10000) j))
    (r' : Fin 4) (g : Fin 8) (l : Fin 16) :
    gsumF Tx Ix (ix2 (⟨320 * w.val + 4 * n + r'.val, by omega⟩ : Fin 10240) (⟨16 * g.val + l.val, by omega⟩ : Fin 128))
      = tree32 fun k : Fin 32 => slot (ix2 (⟨32 * r'.val + k.val, by omega⟩ : Fin 128) (⟨16 * g.val + l.val, by omega⟩ : Fin 128)) :=
  gsumF_window Tx Ix w n hn slot hin hslot r' _

/-- THE CHUNK'S VALUES: the result chunk of trip `t`, slot `b` is rows 4·n … 4·n + 3 (n = 2·t + b) of the worker's
    rows; contents that hold, at each of these four rows, the tree sums of the slot's groups of 32 rows — the slot
    holding the n-th window's gather — are the neighbour sums on the chunk. -/
theorem chunk_val (L : grid0.Coords) (t : Fin k0_t1_loop.trips) (b : Fin 2) (Tx : S10000x128.Idx → F .f32) (Ix : S32x10496.Idx → BitVec 32)
    (f : S10240x128.Idx → F .f32) (slot : S128x128.Idx → F .f32)
    (hin : ∀ k : Fin 10496, (Ix (ix2 (wid (cL0 L) (jL0 L)) k)).toNat < 10000)
    (hslot : ∀ (p j : Fin 128), slot (ix2 p j)
      = Tx (ix2 (⟨(Ix (ix2 (wid (cL0 L) (jL0 L)) (⟨128 * (2 * t.val + b.val) + p.val, by
          have := lt_of_lt_of_eq t.isLt Cert.Proof.Tile.trips_eq; omega⟩ : Fin 10496))).toNat, hin _⟩ : Fin 10000) j))
    (hf : ∀ (r' : Fin 4) (j : Fin 128),
      f (ix2 (⟨320 * (wid (cL0 L) (jL0 L)).val + 4 * (2 * t.val + b.val) + r'.val, by
          have := lt_of_lt_of_eq t.isLt Cert.Proof.Tile.trips_eq; omega⟩ : Fin 10240) j)
        = tree32 fun k : Fin 32 => slot (ix2 (⟨32 * r'.val + k.val, by omega⟩ : Fin 128) j)) :
    ∀ x ∈ Cert.Proof.Tile.oChunkSet L t b, f x = gsumF Tx Ix x := by
  intro x hx
  have ht : t.val < 40 := lt_of_lt_of_eq t.isLt Cert.Proof.Tile.trips_eq
  have hb := b.isLt
  rw [Cert.Proof.Tile.mem_oChunkSet] at hx
  obtain ⟨a, j, rfl⟩ : ∃ (a : Fin 10240) (j : Fin 128), x = ix2 a j := ⟨x 0, x 1, eq_ix2 x⟩
  have hw : (wid (cL0 L) (jL0 L)).val = 2 * (L 1).val + (L 0).val := rfl
  have hx' : 640 * (L 1).val + 320 * (L 0).val + 8 * t.val + 4 * b.val ≤ a.val
      ∧ a.val < 640 * (L 1).val + 320 * (L 0).val + 8 * t.val + 4 * b.val + 4 := hx
  have hr : a.val - (320 * (wid (cL0 L) (jL0 L)).val + 4 * (2 * t.val + b.val)) < 4 := by omega
  have e : (ix2 a j : S10240x128.Idx) = ix2 (⟨320 * (wid (cL0 L) (jL0 L)).val + 4 * (2 * t.val + b.val)
      + (⟨a.val - (320 * (wid (cL0 L) (jL0 L)).val + 4 * (2 * t.val + b.val)), hr⟩ : Fin 4).val, by omega⟩ : Fin 10240) j := by
    congr 1
    exact Fin.ext (by
      show a.val = 320 * (wid (cL0 L) (jL0 L)).val + 4 * (2 * t.val + b.val) + (a.val - (320 * (wid (cL0 L) (jL0 L)).val + 4 * (2 * t.val + b.val)))
      omega)
  rw [e, hf, gsumF_window Tx Ix (wid (cL0 L) (jL0 L)) (2 * t.val + b.val) (by omega) slot hin hslot]

end Cert.Proof.KI

end
-- ==== Proof.BodyStepsV.lean ====
/-
  The value steps of the gather-sum trips, as pure facts about the contents the transfers leave: a slot of the row scratch
  after its gather holds the table rows its index window names; a result chunk after its copy-out holds its rows of the
  neighbour-sum array when the result scratch's slot held the tree sums.
-/
import proofs.«205366_g3083786518796_cont_9to1_852_38_alg».proof.Proof.BodyLemmas
import proofs.«205366_g3083786518796_cont_9to1_852_38_alg».proof.Proof.BodyInvV
import proofs.«205366_g3083786518796_cont_9to1_852_38_alg».proof.Proof.GatherRead
import proofs.«205366_g3083786518796_cont_9to1_852_38_alg».proof.Proof.GSumWindow

noncomputable section

namespace Cert.Proof.Tile

open Cert.KernelIdeal Cert.KernelIdeal.Gen
open Idealize.ShloMosaic
open Idealize.ShloMosaic.ValueIdx (ix1 ix2 ix3)

variable {F : FTy → Type}

/-! ## The views' placements -/

/-- Slot 0 of the row scratch: its element (r, j) is the scratch's element (0, r, j). -/
theorem rwK0_emb (r j : Fin 128) : (rwK0).view.emb (ix2 r j : S128x128.Idx) = (ix3 (0 : Fin 2) r j : S2x128x128.Idx) := by
  have hk : Shape.reshapeEquiv (s := S1x128x128) (s' := S128x128) (squeezes_S1x128x128_S128x128).numel_eq (ix2 r j : S128x128.Idx)
      = (ix3 (0 : Fin 1) r j : S1x128x128.Idx) :=
    Shape.reshapeEquiv_eq_of_rowMajor _ (by
      show ((⟨3, ![1, 128, 128]⟩ : Shape).rowMajor (ix3 (0 : Fin 1) r j) : ℕ) = ((⟨2, ![128, 128]⟩ : Shape).rowMajor (ix2 r j) : ℕ)
      rw [Shape.rowMajor_val_three, Shape.rowMajor_val_two]; simp)
  show (Rect.unit (s := S2x128x128) ![0, 0, 0] S1x128x128.size inb_S2x128x128_S1x128x128_0_0_0).emb
    (Shape.reshapeEquiv (s := S1x128x128) (s' := S128x128) (squeezes_S1x128x128_S128x128).numel_eq (ix2 r j : S128x128.Idx)) = _
  rw [hk]
  funext a
  refine Fin.ext ?_
  match a with
  | ⟨0, _⟩ => show 0 + 1 * 0 = 0; rfl
  | ⟨1, _⟩ => show 0 + 1 * r.val = r.val; omega
  | ⟨2, _⟩ => show 0 + 1 * j.val = j.val; omega

/-- Slot 1 of the row scratch. -/
theorem rwK1_emb (r j : Fin 128) : (rwK1).view.emb (ix2 r j : S128x128.Idx) = (ix3 (1 : Fin 2) r j : S2x128x128.Idx) := by
  have hk : Shape.reshapeEquiv (s := S1x128x128) (s' := S128x128) (squeezes_S1x128x128_S128x128).numel_eq (ix2 r j : S128x128.Idx)
      = (ix3 (0 : Fin 1) r j : S1x128x128.Idx) :=
    Shape.reshapeEquiv_eq_of_rowMajor _ (by
      show ((⟨3, ![1, 128, 128]⟩ : Shape).rowMajor (ix3 (0 : Fin 1) r j) : ℕ) = ((⟨2, ![128, 128]⟩ : Shape).rowMajor (ix2 r j) : ℕ)
      rw [Shape.rowMajor_val_three, Shape.rowMajor_val_two]; simp)
  show (Rect.unit (s := S2x128x128) ![1, 0, 0] S1x128x128.size inb_S2x128x128_S1x128x128_1_0_0).emb
    (Shape.reshapeEquiv (s := S1x128x128) (s' := S128x128) (squeezes_S1x128x128_S128x128).numel_eq (ix2 r j : S128x128.Idx)) = _
  rw [hk]
  funext a
  refine Fin.ext ?_
  match a with
  | ⟨0, _⟩ => show 1 + 1 * 0 = 1; rfl
  | ⟨1, _⟩ => show 0 + 1 * r.val = r.val; omega
  | ⟨2, _⟩ => show 0 + 1 * j.val = j.val; omega

/-- The shared table addressed whole reads the table. -/
theorem shAll_read (Tx : S10000x128.Idx → Elt F .f32) (x : S10000x128.Idx) : (shAllK).view.read (Elt F) Tx x = Tx x := by
  rw [View.read_apply]
  show Tx ((Rect.unit (s := S10000x128) ![0, 0] S10000x128.size inb_S10000x128_S10000x128_0_0).emb x) = Tx x
  congr 1
  funext a
  refine Fin.ext ?_
  match a with
  | ⟨0, _⟩ => show 0 + 1 * (x 0).val = (x 0).val; omega
  | ⟨1, _⟩ => show 0 + 1 * (x 1).val = (x 1).val; omega

/-! ## A slot after its gather -/

section Steps

variable (L : grid0.Coords) (Tx : S10000x128.Idx → Elt F .f32) (Ix : S32x10496.Idx → Elt F .i32)

/-- Writing a whole slot of the row scratch, read back at the slot's element. -/
theorem write_rwK0 (g : S2x128x128.Idx → Elt F .f32) (P : S128x128.Idx → Elt F .f32) (r j : Fin 128) :
    View.write (Elt F) (rwK0).view g P Finset.univ (ix3 (0 : Fin 2) r j) = P (ix2 r j) := by
  rw [← rwK0_emb r j, View.write_emb, if_pos (Finset.mem_univ _)]; rfl
theorem write_rwK1 (g : S2x128x128.Idx → Elt F .f32) (P : S128x128.Idx → Elt F .f32) (r j : Fin 128) :
    View.write (Elt F) (rwK1).view g P Finset.univ (ix3 (1 : Fin 2) r j) = P (ix2 r j) := by
  rw [← rwK1_emb r j, View.write_emb, if_pos (Finset.mem_univ _)]; rfl

/-- The offsets of the `n`-th window name the rows `idxAt` names. -/
theorem window_row (n : ℕ) (hn : n ≤ 81) (inb : ∀ a, (![128 * n] : Fin 1 → ℕ) a + S128.size a ≤ S10496.size a)
    (hin' : ∀ x, (((ixWinK n inb).view.read (Elt F) ((iRowK L).view.read (Elt F) Ix)) x).toNat
      < S10000x128.size (gathers_S10000x128_S128x128).axis) (r : Fin 128) :
    (((ixWinK n inb).view.read (Elt F) ((iRowK L).view.read (Elt F) Ix)) (ix1 r)).toNat = (idxAt L Ix (128 * n + r.val)).val := by
  have hp : 128 * n + r.val < 10496 := by have := r.isLt; omega
  have h1 := hin' (ix1 r)
  rw [Cert.Proof.GatherRead.ixWin_read n inb _ r hp] at h1 ⊢
  unfold idxAt
  show _ = ((iRowK L).view.read (Elt F) Ix (ix1 ⟨(128 * n + r.val) % 10496, Nat.mod_lt _ (by decide)⟩)).toNat % 10000
  have e : (⟨(128 * n + r.val) % 10496, Nat.mod_lt _ (by decide)⟩ : Fin 10496) = ⟨128 * n + r.val, hp⟩ := Fin.ext (Nat.mod_eq_of_lt hp)
  have h1' : ((iRowK L).view.read (Elt F) Ix (ix1 (⟨128 * n + r.val, hp⟩ : Fin 10496))).toNat < 10000 := h1
  rw [e, Nat.mod_eq_of_lt h1']

/-- SLOT 0 AFTER ITS GATHER holds the 128 table rows its index window names. -/
theorem rows_ok0 (n : ℕ) (hn : n ≤ 81) (off : Fin 1 → ℕ) (hoff : off = ![128 * n]) (inb : ∀ a, off a + S128.size a ≤ S10496.size a)
    (g : S2x128x128.Idx → Elt F .f32)
    (hnum : S128.numel = S128x128.size (gathers_S10000x128_S128x128).axis')
    (hin' : ∀ x, ((((Memref.whole cc0_scratch0 : Memref sig .scVector .vmem S10496 .i32).slice (Rect.unit (s := S10496) off S128.size inb) (fun _ => rfl)).view.read (Elt F)
        ((iRowK L).view.read (Elt F) Ix)) x).toNat < S10000x128.size (gathers_S10000x128_S128x128).axis) :
    RowsOK L Tx Ix 0 n (View.write (Elt F) (rwK0).view g
      (SparseCore.gatherPayload gathers_S10000x128_S128x128 ((shAllK).view.read (Elt F) Tx)
        (SparseCore.rows (((Memref.whole cc0_scratch0 : Memref sig .scVector .vmem S10496 .i32).slice (Rect.unit (s := S10496) off S128.size inb) (fun _ => rfl)).view.read (Elt F)
          ((iRowK L).view.read (Elt F) Ix)) hnum hin')) Finset.univ) := by
  subst hoff
  intro r j
  rw [write_rwK0, Cert.Proof.GatherRead.gatherPayload_apply, shAll_read]
  congr 2
  exact Fin.ext (window_row L Ix n hn inb hin' r)

/-- SLOT 1 AFTER ITS GATHER. -/
theorem rows_ok1 (n : ℕ) (hn : n ≤ 81) (off : Fin 1 → ℕ) (hoff : off = ![128 * n]) (inb : ∀ a, off a + S128.size a ≤ S10496.size a)
    (g : S2x128x128.Idx → Elt F .f32)
    (hnum : S128.numel = S128x128.size (gathers_S10000x128_S128x128).axis')
    (hin' : ∀ x, ((((Memref.whole cc0_scratch0 : Memref sig .scVector .vmem S10496 .i32).slice (Rect.unit (s := S10496) off S128.size inb) (fun _ => rfl)).view.read (Elt F)
        ((iRowK L).view.read (Elt F) Ix)) x).toNat < S10000x128.size (gathers_S10000x128_S128x128).axis) :
    RowsOK L Tx Ix 1 n (View.write (Elt F) (rwK1).view g
      (SparseCore.gatherPayload gathers_S10000x128_S128x128 ((shAllK).view.read (Elt F) Tx)
        (SparseCore.rows (((Memref.whole cc0_scratch0 : Memref sig .scVector .vmem S10496 .i32).slice (Rect.unit (s := S10496) off S128.size inb) (fun _ => rfl)).view.read (Elt F)
          ((iRowK L).view.read (Elt F) Ix)) hnum hin')) Finset.univ) := by
  subst hoff
  intro r j
  rw [write_rwK1, Cert.Proof.GatherRead.gatherPayload_apply, shAll_read]
  congr 2
  exact Fin.ext (window_row L Ix n hn inb hin' r)

end Steps

/-! ## A result chunk after its copy-out -/

/-- Slot 0 / 1 of the result scratch: element (r', j) is the scratch's element (b, r', j). -/
theorem obK0_emb (r' : Fin 4) (j : Fin 128) : (obK0).view.emb (ix2 r' j : S4x128.Idx) = (ix3 (0 : Fin 2) r' j : S2x4x128.Idx) := by
  have hk : Shape.reshapeEquiv (s := S1x4x128) (s' := S4x128) (squeezes_S1x4x128_S4x128).numel_eq (ix2 r' j : S4x128.Idx)
      = (ix3 (0 : Fin 1) r' j : S1x4x128.Idx) :=
    Shape.reshapeEquiv_eq_of_rowMajor _ (by
      show ((⟨3, ![1, 4, 128]⟩ : Shape).rowMajor (ix3 (0 : Fin 1) r' j) : ℕ) = ((⟨2, ![4, 128]⟩ : Shape).rowMajor (ix2 r' j) : ℕ)
      rw [Shape.rowMajor_val_three, Shape.rowMajor_val_two]; simp)
  show (Rect.unit (s := S2x4x128) ![0, 0, 0] S1x4x128.size inb_S2x4x128_S1x4x128_0_0_0).emb
    (Shape.reshapeEquiv (s := S1x4x128) (s' := S4x128) (squeezes_S1x4x128_S4x128).numel_eq (ix2 r' j : S4x128.Idx)) = _
  rw [hk]
  funext a
  refine Fin.ext ?_
  match a with
  | ⟨0, _⟩ => show 0 + 1 * 0 = 0; rfl
  | ⟨1, _⟩ => show 0 + 1 * r'.val = r'.val; omega
  | ⟨2, _⟩ => show 0 + 1 * j.val = j.val; omega
theorem obK1_emb (r' : Fin 4) (j : Fin 128) : (obK1).view.emb (ix2 r' j : S4x128.Idx) = (ix3 (1 : Fin 2) r' j : S2x4x128.Idx) := by
  have hk : Shape.reshapeEquiv (s := S1x4x128) (s' := S4x128) (squeezes_S1x4x128_S4x128).numel_eq (ix2 r' j : S4x128.Idx)
      = (ix3 (0 : Fin 1) r' j : S1x4x128.Idx) :=
    Shape.reshapeEquiv_eq_of_rowMajor _ (by
      show ((⟨3, ![1, 4, 128]⟩ : Shape).rowMajor (ix3 (0 : Fin 1) r' j) : ℕ) = ((⟨2, ![4, 128]⟩ : Shape).rowMajor (ix2 r' j) : ℕ)
      rw [Shape.rowMajor_val_three, Shape.rowMajor_val_two]; simp)
  show (Rect.unit (s := S2x4x128) ![1, 0, 0] S1x4x128.size inb_S2x4x128_S1x4x128_1_0_0).emb
    (Shape.reshapeEquiv (s := S1x4x128) (s' := S4x128) (squeezes_S1x4x128_S4x128).numel_eq (ix2 r' j : S4x128.Idx)) = _
  rw [hk]
  funext a
  refine Fin.ext ?_
  match a with
  | ⟨0, _⟩ => show 1 + 1 * 0 = 1; rfl
  | ⟨1, _⟩ => show 0 + 1 * r'.val = r'.val; omega
  | ⟨2, _⟩ => show 0 + 1 * j.val = j.val; omega

section Chunk

variable (L : grid0.Coords) (Tx : S10000x128.Idx → Elt F .f32) (Ix : S32x10496.Idx → Elt F .i32)

/-- The result chunk of trip `t`, slot `b`: its element (r', j) is the output's element at row 640·(L 1) + 320·(L 0) + 8·t + 4·b + r'. -/
theorem oChunk_emb (t : Fin k0_t1_loop.trips) (b : Fin 2) (r' : Fin 4) (j : Fin 128)
    (h : 640 * (L 1).val + 320 * (L 0).val + 8 * t.val + 4 * b.val + r'.val < 10240) :
    (oChunkK L t b).view.emb (ix2 r' j : S4x128.Idx)
      = (ix2 (⟨640 * (L 1).val + 320 * (L 0).val + 8 * t.val + 4 * b.val + r'.val, h⟩ : Fin 10240) j : S10240x128.Idx) := by
  show (Rect.unit (s := S10240x128) (k0_off20 L t (BitVec.ofNat 32 b.val)) S4x128.size (k0_off20_inb L t b)).emb (ix2 r' j : S4x128.Idx) = _
  have h1 := k0_off20_eq L t b
  funext a
  refine Fin.ext ?_
  rw [Rect.emb_apply]
  match a with
  | ⟨0, _⟩ =>
    show (k0_off20 L t (BitVec.ofNat 32 b.val)) 0 + 1 * r'.val = 640 * (L 1).val + 320 * (L 0).val + 8 * t.val + 4 * b.val + r'.val
    rw [h1]; simp
  | ⟨1, _⟩ =>
    show (k0_off20 L t (BitVec.ofNat 32 b.val)) 1 + 1 * j.val = j.val
    rw [h1]; simp

variable [FloatOps F]

/-- A row's sum as the kernel's invariant names it is that row of the neighbour-sum array. -/
theorem rowSum_eq (m : ℕ) (hm : m < 320) (j : Fin 128) :
    rowSum L Tx Ix m j
      = Cert.Proof.KI.gsumF (F := F) Tx Ix (ix2 (⟨320 * (2 * (L 1).val + (L 0).val) + m, by
          have h1 : (L 1).val < 16 := (L 1).isLt
          have h0 : (L 0).val < 2 := (L 0).isLt
          omega⟩ : Fin 10240) j) := by
  have h1 : (L 1).val < 16 := (L 1).isLt
  have h0 : (L 0).val < 2 := (L 0).isLt
  have e1 : (320 * (2 * (L 1).val + (L 0).val) + m) / 320 = 2 * (L 1).val + (L 0).val := by omega
  have e2 : (320 * (2 * (L 1).val + (L 0).val) + m) % 320 = m := by omega
  unfold rowSum
  show _ = (Cert.Proof.KI.tree32 fun k : Fin 32 =>
    Tx (ix2
      ⟨(Ix (ix2 ⟨(320 * (2 * (L 1).val + (L 0).val) + m) / 320, by omega⟩
          ⟨32 * ((320 * (2 * (L 1).val + (L 0).val) + m) % 320) + k.val, by omega⟩)).toNat % 10000, Nat.mod_lt _ (by decide)⟩ j))
  congr 1
  funext k
  congr 2
  refine Fin.ext ?_
  unfold idxAt
  show ((iRowK L).view.read (Elt F) Ix (ix1 ⟨(32 * m + k.val) % 10496, Nat.mod_lt _ (by decide)⟩)).toNat % 10000 = _
  have hp : 32 * m + k.val < 10496 := by have := k.isLt; omega
  have e : (⟨(32 * m + k.val) % 10496, Nat.mod_lt _ (by decide)⟩ : Fin 10496) = ⟨32 * m + k.val, hp⟩ := Fin.ext (Nat.mod_eq_of_lt hp)
  rw [e, View.read_apply, Cert.Proof.KI.iRow_emb L _ hp]
  show (Ix (ix2 (Cert.Proof.KI.wid (Cert.Proof.KI.cL0 L) (Cert.Proof.KI.jL0 L)) (⟨32 * m + k.val, hp⟩ : Fin 10496))).toNat % 10000 = _
  congr 3
  congr 1
  · exact Fin.ext e1.symm
  · exact Fin.ext (by show 32 * m + k.val = 32 * ((320 * (2 * (L 1).val + (L 0).val) + m) % 320) + k.val; rw [e2])

/-- THE CHUNK OF SLOT 0 AFTER ITS COPY-OUT holds its rows of the neighbour-sum array, when the slot of the result scratch held
    the four tree sums. -/
theorem chunk_ok0 (k : Fin k0_t1_loop.trips) (fc : S10240x128.Idx → Elt F .f32) (fob : S2x4x128.Idx → Elt F .f32)
    (hs : SumsOK L Tx Ix 0 (2 * k.val) 4 fob) :
    ChunkOK L Tx Ix k 0 ((oChunkK L k 0).view.writes (Elt F) fc [⟨Rect.whole S4x128, ReadAs.same.apply ((obK0).view.read (Elt F) fob)⟩]) := by
  intro x hx
  have hk : k.val < 40 := lt_of_lt_of_eq k.isLt trips_eq
  have h1 : (L 1).val < 16 := (L 1).isLt
  have h0 : (L 0).val < 2 := (L 0).isLt
  obtain ⟨y, -, rfl⟩ := Finset.mem_map.mp hx
  obtain ⟨r', j, rfl⟩ : ∃ (r' : Fin 4) (j : Fin 128), y = (ix2 r' j : S4x128.Idx) := ⟨y 0, y 1, ValueIdx.eq_ix2 y⟩
  have h := View.read_writes_cons_emb (Val := Elt F) (oChunkK L k 0).view fc (Rect.whole S4x128)
    (ReadAs.same.apply ((obK0).view.read (Elt F) fob)) [] (ix2 r' j : S4x128.Idx)
  rw [Rect.emb_whole_apply, View.read_apply, ReadAs.apply_same, View.read_apply] at h
  simp only [cast_eq] at h
  have hrow : 640 * (L 1).val + 320 * (L 0).val + 8 * k.val + 4 * (0 : Fin 2).val + r'.val < 10240 := by
    have := r'.isLt; show 640 * (L 1).val + 320 * (L 0).val + 8 * k.val + 4 * 0 + r'.val < 10240; omega
  rw [h, obK0_emb r' j, hs r' j r'.isLt, rowSum_eq L Tx Ix (4 * (2 * k.val) + r'.val) (by have := r'.isLt; omega) j,
    oChunk_emb L k 0 r' j hrow]
  congr 2
  exact Fin.ext (by
    show 320 * (2 * (L 1).val + (L 0).val) + (4 * (2 * k.val) + r'.val) = 640 * (L 1).val + 320 * (L 0).val + 8 * k.val + 4 * 0 + r'.val
    omega)

/-- THE CHUNK OF SLOT 1 AFTER ITS COPY-OUT holds its rows of the neighbour-sum array, when the slot of the result scratch held
    the four tree sums. -/
theorem chunk_ok1 (k : Fin k0_t1_loop.trips) (fc : S10240x128.Idx → Elt F .f32) (fob : S2x4x128.Idx → Elt F .f32)
    (hs : SumsOK L Tx Ix 1 (2 * k.val + 1) 4 fob) :
    ChunkOK L Tx Ix k 1 ((oChunkK L k 1).view.writes (Elt F) fc [⟨Rect.whole S4x128, ReadAs.same.apply ((obK1).view.read (Elt F) fob)⟩]) := by
  intro x hx
  have hk : k.val < 40 := lt_of_lt_of_eq k.isLt trips_eq
  have h1 : (L 1).val < 16 := (L 1).isLt
  have h0 : (L 0).val < 2 := (L 0).isLt
  obtain ⟨y, -, rfl⟩ := Finset.mem_map.mp hx
  obtain ⟨r', j, rfl⟩ : ∃ (r' : Fin 4) (j : Fin 128), y = (ix2 r' j : S4x128.Idx) := ⟨y 0, y 1, ValueIdx.eq_ix2 y⟩
  have h := View.read_writes_cons_emb (Val := Elt F) (oChunkK L k 1).view fc (Rect.whole S4x128)
    (ReadAs.same.apply ((obK1).view.read (Elt F) fob)) [] (ix2 r' j : S4x128.Idx)
  rw [Rect.emb_whole_apply, View.read_apply, ReadAs.apply_same, View.read_apply] at h
  simp only [cast_eq] at h
  have hrow : 640 * (L 1).val + 320 * (L 0).val + 8 * k.val + 4 * (1 : Fin 2).val + r'.val < 10240 := by
    have := r'.isLt; show 640 * (L 1).val + 320 * (L 0).val + 8 * k.val + 4 * 1 + r'.val < 10240; omega
  rw [h, obK1_emb r' j, hs r' j r'.isLt, rowSum_eq L Tx Ix (4 * (2 * k.val + 1) + r'.val) (by have := r'.isLt; omega) j,
    oChunk_emb L k 1 r' j hrow]
  congr 2
  exact Fin.ext (by
    show 320 * (2 * (L 1).val + (L 0).val) + (4 * (2 * k.val + 1) + r'.val) = 640 * (L 1).val + 320 * (L 0).val + 8 * k.val + 4 * 1 + r'.val
    omega)

end Chunk

end Cert.Proof.Tile

end
-- ==== Proof.BodyTripV.lean ====
/-
  One trip of the gather-sum kernel's forty, with what the buffers hold: from the valued invariant to itself one trip on.
  The slot's gather leaves the table rows its index chunk names; the inner loop leaves the four tree sums; the copy-out's
  chunk holds its rows of the neighbour-sum array.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefs
import proofs.«205366_g3083786518796_cont_9to1_852_38_alg».proof.Proof.BodyLemmas
import proofs.«205366_g3083786518796_cont_9to1_852_38_alg».proof.Proof.BodyInv
import proofs.«205366_g3083786518796_cont_9to1_852_38_alg».proof.Proof.BodyJoin
import proofs.«205366_g3083786518796_cont_9to1_852_38_alg».proof.Proof.GSum
import proofs.«205366_g3083786518796_cont_9to1_852_38_alg».proof.Proof.BodyInvV
import proofs.«205366_g3083786518796_cont_9to1_852_38_alg».proof.Proof.BodyTrip
import proofs.«205366_g3083786518796_cont_9to1_852_38_alg».proof.Proof.BodyStepV
import proofs.«205366_g3083786518796_cont_9to1_852_38_alg».proof.Proof.BodyInnerV
import proofs.«205366_g3083786518796_cont_9to1_852_38_alg».proof.Proof.BodyStepsV
import Idealize.ShloMosaic.Lib.ValueIdx

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

section Body
variable (d : Dev nD) (L : grid0.Coords)

open Idealize.ShloMosaic.ValueIdx (ix1 ix2 ix3)

set_option maxHeartbeats 8000000 in
/-- The first trip: no copy-out is pending. -/
theorem trip0V (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (HR0f : ∀ (n : ℕ) (h : Buf (Elt F) ((V d (cV L) (jV L)).loc cc0_scratch1)) (_ : RowsOK L Tx Ix 0 n h) (k : Fin k0_t1_loop.trips) (v2 : BitVec 32) (k2 : Fin k0_t2_loop.trips) (x : PUnit),
      innerInv0 (U := U) d L Tx Ix Finset.univ n h k2.val x ⊢ wp frame (wpE (defs₀ (F := F)) 𝒱₀ (V d (cV L) (jV L)) none) Set.univ
        (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k k2 x) (fun y => innerInv0 (U := U) d L Tx Ix Finset.univ n h (k2.val + 1) y))
    (HR0 : ∀ (n : ℕ) (h : Buf (Elt F) ((V d (cV L) (jV L)).loc cc0_scratch1)) (_ : RowsOK L Tx Ix 0 n h) (k : Fin k0_t1_loop.trips) (v2 : BitVec 32) (k2 : Fin k0_t2_loop.trips) (x : PUnit),
      innerInv0 (U := U) d L Tx Ix (Finset.univ \ (obK1).view.set) n h k2.val x ⊢ wp frame (wpE (defs₀ (F := F)) 𝒱₀ (V d (cV L) (jV L)) none) Set.univ
        (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k k2 x) (fun y => innerInv0 (U := U) d L Tx Ix (Finset.univ \ (obK1).view.set) n h (k2.val + 1) y))
    (HR1 : ∀ (n : ℕ) (h : Buf (Elt F) ((V d (cV L) (jV L)).loc cc0_scratch1)) (_ : RowsOK L Tx Ix 1 n h) (k : Fin k0_t1_loop.trips) (v2 arg11 : BitVec 32) (k3 : Fin k0_t3_loop.trips) (x : PUnit),
      innerInv1 (U := U) d L Tx Ix n h k3.val x ⊢ wp frame (wpE (defs₀ (F := F)) 𝒱₀ (V d (cV L) (jV L)) none) Set.univ
        (k0_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k arg11 k3 x) (fun y => innerInv1 (U := U) d L Tx Ix n h (k3.val + 1) y))
    (HG0 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 0 n (View.write (Elt F) (rwK0).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HG1 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 1 n (View.write (Elt F) (rwK1).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HC0 : ∀ (k : Fin k0_t1_loop.trips) (fc : S10240x128.Idx → Elt F .f32) (fob : S2x4x128.Idx → Elt F .f32), SumsOK L Tx Ix 0 (2 * k.val) 4 fob →
      ChunkOK L Tx Ix k 0 ((oChunkK L k 0).view.writes (Elt F) fc [⟨Rect.whole S4x128, ReadAs.same.apply ((obK0).view.read (Elt F) fob)⟩]))
    (HC1 : ∀ (k : Fin k0_t1_loop.trips) (fc : S10240x128.Idx → Elt F .f32) (fob : S2x4x128.Idx → Elt F .f32), SumsOK L Tx Ix 1 (2 * k.val + 1) 4 fob →
      ChunkOK L Tx Ix k 1 ((oChunkK L k 1).view.writes (Elt F) fc [⟨Rect.whole S4x128, ReadAs.same.apply ((obK1).view.read (Elt F) fob)⟩]))
    (O : CellTallies nD τ sig (HIx 3)) (W : Waits sig (HIx 3)) (v2 : BitVec 32)
    (k : Fin k0_t1_loop.trips) (hk : k.val = 0) (x : PUnit) :
    tripInvV (U := U) d L Tx Ix O W k.val x
      ⊢ wp frame (wpE (defs₀ (F := F)) 𝒱₀ (V d (cV L) (jV L)) none) Set.univ
          (k0_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k x)
          fun y => tripInvV (U := U) d L Tx Ix O W (k.val + 1) y := by
  have hc1 := cond1_zero hk
  have hc2 := cond2_zero hk
  have hrow : (k.val + 1 ≠ k.val) := Nat.succ_ne_self _
  unfold tripInvV
  rw [if_pos hk, if_pos hk]
  unfold gFl0 gFl1
  iintro ⟨#Hmw, ⟨%fr0, %fr1, %hrows, ⟨FG0, Hix0⟩, ⟨FG1, Hix1⟩⟩, ⟨%frr, Hrwr⟩, Hsh0, Hsh1, ⟨%fob, Hob, Hso0, Hso1⟩, Hrows, ⟨%W', %hW', HO⟩⟩
  ihave Hr := (Entails.of_eq (SparseCore.bigSep_erase' (Φ := fun t' : Fin k0_t1_loop.trips => rowStV (U := U) (F := F) d L Tx Ix k.val t') (Finset.mem_univ k))) $$ Hrows
  icases Hr with ⟨Hrow, Hrest⟩
  ihave Hrow' := (Entails.of_eq (rowStV_todo (F := F) (U := U) d L Tx Ix hrow (Nat.lt_irrefl _))) $$ Hrow
  icases Hrow' with ⟨⟨%fc0, Hoc0⟩, ⟨%fc1, Hoc1⟩⟩
  unfold k0_t1_body
  -- slot 0: its gather waited for
  sl_exec
  -- slot 0 of the row scratch, back from its gather, joined to what is held of the scratch
  ihave Hj := (pts_joinV (F := F) (U := U) (sdiff_join_disj rw_slots_disjoint) fr0 frr) $$ [FG0_dst Hrwr]
  · isplitl [FG0_dst]; · iexact FG0_dst
    iexact Hrwr
  icases Hj with ⟨%g1, %hg1, Hrw⟩
  have hr1 : RowsOK L Tx Ix 0 (2 * k.val) g1 := RowsOK_of_eq0 (F := F) L Tx Ix hrows.1 hg1
  rw [sdiff_join_left rw_slots_disjoint]
  -- the four sums of slot 0
  sl_for (innerInv0 (U := U) d L Tx Ix Finset.univ (2 * k.val) g1) $$ [Hrw Hob]
  case region =>
    intro k2 x2
    exact HR0f (2 * k.val) g1 hr1 k v2 k2 x2
  · unfold innerInv0
    iexists fob; isplitr; · ipureintro; exact SumsOK_zero (F := F) L Tx Ix 0 _ _
    isplitl [Hrw]; · iexact Hrw
    iexact Hob
  iintro %_ HI
  unfold innerInv0
  icases HI with ⟨%fobA, %hsA, Hrw, Hob⟩
  have hsA4 : SumsOK L Tx Ix 0 (2 * k.val) 4 fobA := hsA
  -- slot 0 copied out, its next gather started; slot 1's gather waited for
  sl_exec
  -- slot 1 of the row scratch joined
  ihave Hj := (pts_joinV (F := F) (U := U) (sdiff_join_disj rw_slots_disjoint.symm) fr1 _) $$ [FG1_dst Hrw]
  · isplitl [FG1_dst]; · iexact FG1_dst
    iexact Hrw
  icases Hj with ⟨%g2, %hg2, Hrw⟩
  have hr2 : RowsOK L Tx Ix 1 (2 * k.val + 1) g2 := RowsOK_of_eq1 (F := F) L Tx Ix hrows.2 hg2
  rw [sdiff_join_left rw_slots_disjoint.symm]
  -- the four sums of slot 1
  sl_for (innerInv1 (U := U) d L Tx Ix (2 * k.val + 1) g2) $$ [Hrw Hob]
  case region =>
    intro k3 x3
    exact HR1 (2 * k.val + 1) g2 hr2 k v2 _ k3 x3
  · unfold innerInv1
    iexists fobA; isplitr; · ipureintro; exact SumsOK_zero (F := F) L Tx Ix 1 _ _
    isplitl [Hrw]; · iexact Hrw
    iexact Hob
  iintro %_ HI
  unfold innerInv1
  icases HI with ⟨%fobB, %hsB, Hrw, Hob⟩
  have hsB4 : SumsOK L Tx Ix 1 (2 * k.val + 1) 4 fobB := hsB
  -- slot 1 copied out, its next gather started
  sl_exec
  sl_step
  -- the invariant, one trip on
  have h40 := lt_of_lt_of_eq k.isLt k0_trips_eq
  have hoff0 : k0_off21 k 0#32 = ![128 * (2 * (k.val + 1))] := by
    have h := k0_off21_eq k (0 : Fin 2)
    rw [show (BitVec.ofNat 32 ((0 : Fin 2) : ℕ)) = 0#32 from rfl] at h
    rw [h]; congr 1; simp; omega
  have hoff1 : k0_off21 k 1#32 = ![128 * (2 * (k.val + 1) + 1)] := by
    have h := k0_off21_eq k (1 : Fin 2)
    rw [show (BitVec.ofNat 32 ((1 : Fin 2) : ℕ)) = 1#32 from rfl] at h
    rw [h]; congr 1; simp; omega
  rw [if_neg (Nat.succ_ne_zero k.val), if_neg (Nat.succ_ne_zero k.val), Nat.add_sub_cancel, tFin_val]
  unfold oFl0 oFl1
  isplitr; · iexact Hmw
  isplitl [FG0 Hix0 FG1 Hix1]
  · iexists _; iexists _
    isplitr
    swap
    · isplitl [FG0 Hix0]
      · isplitl [FG0]; · iexact FG0
        iexact Hix0
      · isplitl [FG1]; · iexact FG1
        iexact Hix1
    ipureintro
    exact ⟨HG0 (2 * (k.val + 1)) (by omega) _ hoff0 _ _ _ _, HG1 (2 * (k.val + 1) + 1) (by omega) _ hoff1 _ _ _ _⟩
  isplitl [Hrw]; · iexists _; iexact Hrw
  isplitl [Hsh0]; · iexact Hsh0
  isplitl [Hsh1]; · iexact Hsh1
  isplitl [Hso0 Hso1 Hob]
  · iexists _; iexists _; iexists _; iexists _; iexists _
    isplitr
    swap
    · isplitl [Hso0]; · iexact Hso0
      isplitl [Hso1]; · iexact Hso1
      iexact Hob
    ipureintro
    exact ⟨HC0 k _ _ hsA4, HC1 k _ _ hsB4⟩
  isplitl [Hrest]; · iapply (rows_step0V (F := F) (U := U) d L Tx Ix k hk); iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
/-- A later trip: the previous trip's two copy-outs are pending. -/
theorem tripSV (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (HR0f : ∀ (n : ℕ) (h : Buf (Elt F) ((V d (cV L) (jV L)).loc cc0_scratch1)) (_ : RowsOK L Tx Ix 0 n h) (k : Fin k0_t1_loop.trips) (v2 : BitVec 32) (k2 : Fin k0_t2_loop.trips) (x : PUnit),
      innerInv0 (U := U) d L Tx Ix Finset.univ n h k2.val x ⊢ wp frame (wpE (defs₀ (F := F)) 𝒱₀ (V d (cV L) (jV L)) none) Set.univ
        (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k k2 x) (fun y => innerInv0 (U := U) d L Tx Ix Finset.univ n h (k2.val + 1) y))
    (HR0 : ∀ (n : ℕ) (h : Buf (Elt F) ((V d (cV L) (jV L)).loc cc0_scratch1)) (_ : RowsOK L Tx Ix 0 n h) (k : Fin k0_t1_loop.trips) (v2 : BitVec 32) (k2 : Fin k0_t2_loop.trips) (x : PUnit),
      innerInv0 (U := U) d L Tx Ix (Finset.univ \ (obK1).view.set) n h k2.val x ⊢ wp frame (wpE (defs₀ (F := F)) 𝒱₀ (V d (cV L) (jV L)) none) Set.univ
        (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k k2 x) (fun y => innerInv0 (U := U) d L Tx Ix (Finset.univ \ (obK1).view.set) n h (k2.val + 1) y))
    (HR1 : ∀ (n : ℕ) (h : Buf (Elt F) ((V d (cV L) (jV L)).loc cc0_scratch1)) (_ : RowsOK L Tx Ix 1 n h) (k : Fin k0_t1_loop.trips) (v2 arg11 : BitVec 32) (k3 : Fin k0_t3_loop.trips) (x : PUnit),
      innerInv1 (U := U) d L Tx Ix n h k3.val x ⊢ wp frame (wpE (defs₀ (F := F)) 𝒱₀ (V d (cV L) (jV L)) none) Set.univ
        (k0_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k arg11 k3 x) (fun y => innerInv1 (U := U) d L Tx Ix n h (k3.val + 1) y))
    (HG0 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 0 n (View.write (Elt F) (rwK0).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HG1 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 1 n (View.write (Elt F) (rwK1).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HC0 : ∀ (k : Fin k0_t1_loop.trips) (fc : S10240x128.Idx → Elt F .f32) (fob : S2x4x128.Idx → Elt F .f32), SumsOK L Tx Ix 0 (2 * k.val) 4 fob →
      ChunkOK L Tx Ix k 0 ((oChunkK L k 0).view.writes (Elt F) fc [⟨Rect.whole S4x128, ReadAs.same.apply ((obK0).view.read (Elt F) fob)⟩]))
    (HC1 : ∀ (k : Fin k0_t1_loop.trips) (fc : S10240x128.Idx → Elt F .f32) (fob : S2x4x128.Idx → Elt F .f32), SumsOK L Tx Ix 1 (2 * k.val + 1) 4 fob →
      ChunkOK L Tx Ix k 1 ((oChunkK L k 1).view.writes (Elt F) fc [⟨Rect.whole S4x128, ReadAs.same.apply ((obK1).view.read (Elt F) fob)⟩]))
    (O : CellTallies nD τ sig (HIx 3)) (W : Waits sig (HIx 3)) (v2 : BitVec 32)
    (k : Fin k0_t1_loop.trips) (hk : k.val ≠ 0) (x : PUnit) :
    tripInvV (U := U) d L Tx Ix O W k.val x
      ⊢ wp frame (wpE (defs₀ (F := F)) 𝒱₀ (V d (cV L) (jV L)) none) Set.univ
          (k0_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k x)
          fun y => tripInvV (U := U) d L Tx Ix O W (k.val + 1) y := by
  have hc1 := cond1_pos k hk
  have hc2 := cond2_pos k hk
  have hrow : (k.val + 1 ≠ k.val) := Nat.succ_ne_self _
  unfold tripInvV
  rw [if_neg hk, if_neg hk]
  unfold gFl0 gFl1 oFl0 oFl1
  iintro ⟨#Hmw, ⟨%fr0, %fr1, %hrows, ⟨FG0, Hix0⟩, ⟨FG1, Hix1⟩⟩, ⟨%frr, Hrwr⟩, Hsh0, Hsh1, ⟨%fob, %fc0p, %fc1p, %fob0, %fob1, %hchk, FO0, FO1, Hobr⟩, Hrows, ⟨%W', %hW', HO⟩⟩
  ihave Hr := (Entails.of_eq (SparseCore.bigSep_erase' (Φ := fun t' : Fin k0_t1_loop.trips => rowStV (U := U) (F := F) d L Tx Ix k.val t') (Finset.mem_univ k))) $$ Hrows
  icases Hr with ⟨Hrow, Hrest⟩
  ihave Hrow' := (Entails.of_eq (rowStV_todo (F := F) (U := U) d L Tx Ix hrow (Nat.lt_irrefl _))) $$ Hrow
  icases Hrow' with ⟨⟨%fc0, Hoc0⟩, ⟨%fc1, Hoc1⟩⟩
  unfold k0_t1_body
  -- slot 0: its gather waited for
  sl_exec
  -- slot 0 of the row scratch, back from its gather, joined to what is held of the scratch
  ihave Hj := (pts_joinV (F := F) (U := U) (sdiff_join_disj rw_slots_disjoint) fr0 frr) $$ [FG0_dst Hrwr]
  · isplitl [FG0_dst]; · iexact FG0_dst
    iexact Hrwr
  icases Hj with ⟨%g1, %hg1, Hrw⟩
  have hr1 : RowsOK L Tx Ix 0 (2 * k.val) g1 := RowsOK_of_eq0 (F := F) L Tx Ix hrows.1 hg1
  rw [sdiff_join_left rw_slots_disjoint]
  -- slot 0 of the result scratch, back from its copy-out, joined to what is held of the scratch
  ihave Hjo := (pts_join (F := F) (U := U) (sdiff_join_disj ob_slots_disjoint) fob0 fob) $$ [FO0_src Hobr]
  · isplitl [FO0_src]; · iexact FO0_src
    iexact Hobr
  icases Hjo with ⟨%go1, Hob⟩
  rw [sdiff_join_left ob_slots_disjoint]
  -- the four sums of slot 0
  sl_for (innerInv0 (U := U) d L Tx Ix (Finset.univ \ (obK1).view.set) (2 * k.val) g1) $$ [Hrw Hob]
  case region =>
    intro k2 x2
    exact HR0 (2 * k.val) g1 hr1 k v2 k2 x2
  · unfold innerInv0
    iexists go1; isplitr; · ipureintro; exact SumsOK_zero (F := F) L Tx Ix 0 _ _
    isplitl [Hrw]; · iexact Hrw
    iexact Hob
  iintro %_ HI
  unfold innerInv0
  icases HI with ⟨%fobA, %hsA, Hrw, Hob⟩
  have hsA4 : SumsOK L Tx Ix 0 (2 * k.val) 4 fobA := hsA
  -- slot 0 copied out, its next gather started; slot 1's gather waited for
  sl_exec
  -- slot 1 of the row scratch joined
  ihave Hj := (pts_joinV (F := F) (U := U) (sdiff_join_disj rw_slots_disjoint.symm) fr1 _) $$ [FG1_dst Hrw]
  · isplitl [FG1_dst]; · iexact FG1_dst
    iexact Hrw
  icases Hj with ⟨%g2, %hg2, Hrw⟩
  have hr2 : RowsOK L Tx Ix 1 (2 * k.val + 1) g2 := RowsOK_of_eq1 (F := F) L Tx Ix hrows.2 hg2
  rw [sdiff_join_left rw_slots_disjoint.symm]
  -- slot 1 of the result scratch joined
  ihave Hjo := (pts_join (F := F) (U := U) (sdiff_join_disj ob_slots_disjoint.symm) fob1 _) $$ [FO1_src Hob]
  · isplitl [FO1_src]; · iexact FO1_src
    iexact Hob
  icases Hjo with ⟨%go2, Hob⟩
  rw [sdiff_join_left ob_slots_disjoint.symm]
  -- the four sums of slot 1
  sl_for (innerInv1 (U := U) d L Tx Ix (2 * k.val + 1) g2) $$ [Hrw Hob]
  case region =>
    intro k3 x3
    exact HR1 (2 * k.val + 1) g2 hr2 k v2 _ k3 x3
  · unfold innerInv1
    iexists go2; isplitr; · ipureintro; exact SumsOK_zero (F := F) L Tx Ix 1 _ _
    isplitl [Hrw]; · iexact Hrw
    iexact Hob
  iintro %_ HI
  unfold innerInv1
  icases HI with ⟨%fobB, %hsB, Hrw, Hob⟩
  have hsB4 : SumsOK L Tx Ix 1 (2 * k.val + 1) 4 fobB := hsB
  -- slot 1 copied out, its next gather started
  sl_exec
  sl_step
  -- the invariant, one trip on
  have h40 := lt_of_lt_of_eq k.isLt k0_trips_eq
  have hoff0 : k0_off21 k 0#32 = ![128 * (2 * (k.val + 1))] := by
    have h := k0_off21_eq k (0 : Fin 2)
    rw [show (BitVec.ofNat 32 ((0 : Fin 2) : ℕ)) = 0#32 from rfl] at h
    rw [h]; congr 1; simp; omega
  have hoff1 : k0_off21 k 1#32 = ![128 * (2 * (k.val + 1) + 1)] := by
    have h := k0_off21_eq k (1 : Fin 2)
    rw [show (BitVec.ofNat 32 ((1 : Fin 2) : ℕ)) = 1#32 from rfl] at h
    rw [h]; congr 1; simp; omega
  rw [if_neg (Nat.succ_ne_zero k.val), if_neg (Nat.succ_ne_zero k.val), Nat.add_sub_cancel, tFin_val]

  isplitr; · iexact Hmw
  isplitl [FG0 Hix0 FG1 Hix1]
  · iexists _; iexists _
    isplitr
    swap
    · isplitl [FG0 Hix0]
      · isplitl [FG0]; · iexact FG0
        iexact Hix0
      · isplitl [FG1]; · iexact FG1
        iexact Hix1
    ipureintro
    exact ⟨HG0 (2 * (k.val + 1)) (by omega) _ hoff0 _ _ _ _, HG1 (2 * (k.val + 1) + 1) (by omega) _ hoff1 _ _ _ _⟩
  isplitl [Hrw]; · iexists _; iexact Hrw
  isplitl [Hsh0]; · iexact Hsh0
  isplitl [Hsh1]; · iexact Hsh1
  isplitl [FO0 FO1 Hob]
  · iexists _; iexists _; iexists _; iexists _; iexists _
    isplitr
    swap
    · isplitl [FO0]; · iexact FO0
      isplitl [FO1]; · iexact FO1
      iexact Hob
    ipureintro
    exact ⟨HC0 k _ _ hsA4, HC1 k _ _ hsB4⟩
  isplitl [Hrest FO0_dst FO1_dst]
  · iapply (rows_stepSV (F := F) (U := U) d L Tx Ix k hk fc0p fc1p hchk.1 hchk.2)
    isplitl [Hrest]; · iexact Hrest
    isplitl [FO0_dst]; · iexact FO0_dst
    iexact FO1_dst
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One trip of the forty, with what the buffers hold. -/
theorem trip_regionV (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k0_t1_loop.trips) (x : PUnit) :
    tripInvV (U := U) d L Tx Ix O W k.val x
      ⊢ wp frame (wpE (defs₀ (F := F)) 𝒱₀ (V d (cV L) (jV L)) none) Set.univ
          (k0_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k x)
          fun y => tripInvV (U := U) d L Tx Ix O W (k.val + 1) y := by
  by_cases hk : k.val = 0
  · exact trip0V (F := F) (U := U) d L Tx Ix hinR
      (fun n h hr k v2 k2 x => inner_region0_first (F := F) (U := U) d L Tx Ix n h hr k v2 k2 x)
      (fun n h hr k v2 k2 x => inner_region0 (F := F) (U := U) d L Tx Ix n h hr k v2 k2 x)
      (fun n h hr k v2 a k3 x => inner_region1 (F := F) (U := U) d L Tx Ix n h hr k v2 a k3 x)
      (fun n hn off hoff inb g hnum hin' => rows_ok0 (F := F) L Tx Ix n hn off hoff inb g hnum hin')
      (fun n hn off hoff inb g hnum hin' => rows_ok1 (F := F) L Tx Ix n hn off hoff inb g hnum hin')
      (fun k fc fob hs => chunk_ok0 (F := F) L Tx Ix k fc fob hs)
      (fun k fc fob hs => chunk_ok1 (F := F) L Tx Ix k fc fob hs)
      O W v2 k hk x
  · exact tripSV (F := F) (U := U) d L Tx Ix hinR
      (fun n h hr k v2 k2 x => inner_region0_first (F := F) (U := U) d L Tx Ix n h hr k v2 k2 x)
      (fun n h hr k v2 k2 x => inner_region0 (F := F) (U := U) d L Tx Ix n h hr k v2 k2 x)
      (fun n h hr k v2 a k3 x => inner_region1 (F := F) (U := U) d L Tx Ix n h hr k v2 a k3 x)
      (fun n hn off hoff inb g hnum hin' => rows_ok0 (F := F) L Tx Ix n hn off hoff inb g hnum hin')
      (fun n hn off hoff inb g hnum hin' => rows_ok1 (F := F) L Tx Ix n hn off hoff inb g hnum hin')
      (fun k fc fob hs => chunk_ok0 (F := F) L Tx Ix k fc fob hs)
      (fun k fc fob hs => chunk_ok1 (F := F) L Tx Ix k fc fob hs)
      O W v2 k hk x

end Body
end Cert.Proof.Tile
end
-- ==== Proof.BodyGen.lean ====
/-
  The gather-sum kernel on one vector subcore, stated over ANY schedule of the barrier cells.

  The subcore's run uses the barrier's schedule only through five facts at the call's round: every sibling's cell names
  the subcore as a duty of the round, each such duty is one unit, the subcore's own round expects sixteen units, the
  staged stripe splits into what is kept and what the sixteen duties hand over, and what the subcore's own round
  collects is its read share of the whole shared table.  With these as hypotheses, and the round and the call's number
  as parameters, one text serves every call and whatever schedule the launch fixed.  The forty trips' step is a
  hypothesis too.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefs
import proofs.«205366_g3083786518796_cont_9to1_852_38_alg».proof.Proof.BodyLemmas
import proofs.«205366_g3083786518796_cont_9to1_852_38_alg».proof.Proof.BodyInv
import proofs.«205366_g3083786518796_cont_9to1_852_38_alg».proof.Proof.BodyJoin

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

section Body
variable (d : Dev nD) (L : grid0.Coords)

/-- The barrier kit over a schedule `Rd`, for round `r` (call `q`): every subcore's cell invariant of its SparseCore, its duty
    token in every subcore's round `r`, that each has reached round `r`, its own position at the origin of round `r`, and
    the credit for the sixteen units of its own round. -/
def bkitR (EB : Emb (URounds (GSem nD τ sig) ℕ) (MT nD τ sig (HIx 3) (Elt F) ℕ U ℕ)) (Rd : Rounds.Schedule (GSem nD τ sig) ℕ 𝕄) (r : ℕ) (q : Fin 3) (d : Dev nD) (c : Fin τ.nSC) (i : Fin τ.nSub) : sProp 𝕄 :=
  iprop((∃ κ : GSem nD τ sig → ℕ, bigSep Finset.univ fun j : Fin (grid0.bound 1) =>
      cellInv EB Rd (κ (bcell d c (j.castLE hsub0))) (bcell d c (j.castLE hsub0)))
    ∗ (bigSep Finset.univ fun j : Fin (grid0.bound 1) => dutyTok EB (bcell d c (j.castLE hsub0)) r i.val)
    ∗ (bigSep Finset.univ fun j : Fin (grid0.bound 1) => reached (D := ℕ) EB (bcell d c (j.castLE hsub0)) r)
    ∗ atPos EB (bcell d c i) r (∅ : Finset ℕ) 0
    ∗ cred (tallyAt (bcell d c i) (some q) (grid0.bound 1)))

set_option maxHeartbeats 4000000 in
/-- The kernel on vector subcore `L`: the index row and the stripe copied in and waited for (the executor); the barrier
    (the stripe's read shares handed over, every stripe's received); the two first gathers; the forty trips (the invariant
    `tripInv`, each trip `trip_region`); the four last waits. -/
theorem tile_body_gen (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid0.bound 1), (jV L).val ∈ Rd.duties (bcell d (cV L) (j.castLE hsub0)) rC)
    (hamt : ∀ j : Fin (grid0.bound 1), Rd.amount (bcell d (cV L) (j.castLE hsub0)) rC (jV L).val = 1)
    (hexp : 0 + grid0.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid0.bound 1) => Rd.payload (bcell d (cV L) (j.castLE hsub0)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (htrip : ∀ (v2 : BitVec 32) (k : Fin k0_t1_loop.trips) (x : PUnit),
      tripInv (F := F) (U := U) d L Tx Ix O
          (insert (SemLoc.reg sc_bar0, some qC) (insert (SemLoc.dma cc0_scoped1.sem, (default : HIx 3)) (insert (SemLoc.dma cc0_scoped0.sem, (default : HIx 3)) W))) k.val x
        ⊢ wp frame (wpE (defs₀ (F := F)) 𝒱₀ (V d (cV L) (jV L)) none) Set.univ
            (k0_t1_body L xV (Memref.isWhole_whole _) iV (Memref.isWhole_whole _) oV (Memref.isWhole_whole _)
              ixV (Memref.isWhole_whole _) rwV (Memref.isWhole_whole _) obV (Memref.isWhole_whole _) shV (Memref.isWhole_whole _)
              cc0_scratch4 cc0_scratch5 cc0_scoped0 cc0_scoped1 v2 k x)
            (tripInv (F := F) (U := U) d L Tx Ix O
              (insert (SemLoc.reg sc_bar0, some qC) (insert (SemLoc.dma cc0_scoped1.sem, (default : HIx 3)) (insert (SemLoc.dma cc0_scoped0.sem, (default : HIx 3)) W))) (k.val + 1)))
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f))
        ∗ (semVal (cell d L cc0_scoped0.sem) 0 ∗ semVal (cell d L cc0_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc0__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1)
          fun _ => iprop(tdT d L qx qi Tx Ix
            ∗ (atPos EB (bcell d (cV L) (jV L)) (rC + 1) (∅ : Finset ℕ) 0 ∗ reached (D := ℕ) EB (bcell d (cV L) (jV L)) (rC + 1))
            ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f))
            ∗ (semVal (cell d L cc0_scoped0.sem) 0 ∗ semVal (cell d L cc0_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') := by
  simp only [cc0__sc_gather_sum_eq_skeleton]; unfold cc0__sc_gather_sum_skel
  unfold bkitR goT
  iintro ⟨#Hlv, ⟨⟨%κ, #Hinv⟩, Htoks, #Hrch, Hat, Hcred⟩, ⟨Hx, Hi, Ho, %fsh, Hsh⟩, ⟨⟨%f0, Hb0⟩, ⟨%f1, Hb1⟩, ⟨%f2, Hb2⟩⟩, ⟨HsA, HsB, Hg0, Hg1, Ho0, Ho1⟩, HO⟩
  have hO' : ∀ g, (O + oxV d (cV L) qC) g none = 0 := fun g => by rw [Pi.add_apply, Finsupp.add_apply, hO g, oxV_none]
  ihave Hmw1 := (show levAts (K (F := F)).L (K (F := F)).lev ⊢ Transfers.MayWaits (V d (cV L) (jV L)) (default : HIx 3) (O + oxV d (cV L) qC) from
    (K (F := F)).mayWaits_none (thr := V d (cV L) (jV L)) hO') $$ Hlv
  ihave Hmw2 := (show levAts (K (F := F)).L (K (F := F)).lev ⊢ Transfers.MayWaits (V d (cV L) (jV L)) (default : HIx 3) O from
    (K (F := F)).mayWaits_none (thr := V d (cV L) (jV L)) hO) $$ Hlv
  ihave Hx' := (Entails.of_eq (pts_x (F := F) (U := U) d L _ _).symm) $$ Hx
  ihave Hi' := (Entails.of_eq (pts_iRow (F := F) (U := U) d L _ _).symm) $$ Hi
  ihave Hsh' := (Entails.of_eq (pts_shStripe (F := F) (U := U) d L _ _).symm) $$ Hsh
  ihave Hix' := (Entails.of_eq (pts_ix (F := F) (U := U) d L _).symm) $$ Hb0
  ihave Hrw' := (Entails.of_eq (pts_rw (F := F) (U := U) d L _).symm) $$ Hb1
  ihave Hob' := (Entails.of_eq (pts_ob (F := F) (U := U) d L _).symm) $$ Hb2
  -- the index row into the index scratch, the stripe into the shared table, each waited for
  sl_exec (disch := first | exact View.amount_pos _ _ (stripe_numel_pos L) | exact View.dmaCredit_pos _ (stripe_numel_pos L))
  -- the barrier: the stripe, holding the table's rows, handed over by read shares; every stripe's share received
  unfold tile_body_gen.sl.dma0_1 tile_body_gen.sl.dma0
  ihave Hsh3 := (stripe_fix (F := F) (U := U) d L Tx fsh) $$ Hsh'
  ihave Hpk := hin_pay $$ Hsh3
  icases Hpk with ⟨Hkeep, Hpays⟩
  iapply (SparseCore.wp_subcoreBarrier 𝒱₀ none EB Rd d (sc := cV L) (i := jV L) sc_bar0 (grid0.bound 1) hsub0 (L 1) rfl κ (fun _ => rC) (jV L).val
      hmem hamt hexp (some qC) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) (8 * qC.val + 3) (fun p hp => by
        rw [Finset.mem_singleton] at hp; subst hp
        show (K (F := F)).lev (bcell d (cV L) (jV L)) (some qC) ≤ 8 * qC.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hrch1, Hgot⟩
  ihave Hall := hout_pay $$ Hgot
  -- the index scratch holds row `wid`; every window of it names rows of the table
  ihave Hix2 := (idx_fix (F := F) (U := U) d L Ix f0) $$ Hix'
  have hinR := idx_inb (F := F) L Ix hin
  ihave Hall' := (Entails.of_eq (show ((shV).view.loc (V d (cV L) (jV L)) ↦{shTok (jV L)} Tx : sProp 𝕄) = shLoc d (cV L) ↦{shTok (jV L)} Tx from rfl).symm) $$ Hall
  ihave HallS := (pointsTo_share (PosShare.mem_left_op_right (shTok (jV L)))).1 $$ Hall'
  icases HallS with ⟨HallA, HallB⟩
  ihave HixS := (pointsTo_share (PosShare.mem_left_op_right fullShare)).1 $$ Hix2
  icases HixS with ⟨HixA, HixB⟩
  -- the two first gathers
  sl_exec
  -- the forty trips
  sl_for (tripInv d L Tx Ix O (insert (SemLoc.reg sc_bar0, some qC) (insert (SemLoc.dma cc0_scoped1.sem, (default : HIx 3)) (insert (SemLoc.dma cc0_scoped0.sem, (default : HIx 3)) W)))) $$ [Hmw2 Hg0 Hg1 HixA HixB HallA HallB Hrw' Hob' Ho0 Ho1 Ho HO]
  case region =>
    intro k x
    unfold tile_body_gen.sl.prog.body_1
    exact htrip _ k x
  · unfold tripInv
    simp only [↓reduceIte]
    unfold gFl0 gFl1
    isplitr; · iexact Hmw2
    isplitl [Hg0 Hg1 HixA HixB]
    · iexists _; iexists _
      isplitl [Hg0 HixA]
      · isplitl [Hg0]; · iexact Hg0
        iexact HixA
      · isplitl [Hg1]; · iexact Hg1
        iexact HixB
    isplitl [Hrw']; · iexists _; iexact Hrw'
    isplitl [HallA]; · iexact HallA
    isplitl [HallB]; · iexact HallB
    isplitl [Hob' Ho0 Ho1]
    · iexists _
      isplitl [Hob']; · iexact Hob'
      isplitl [Ho0]; · iexact Ho0
      iexact Ho1
    isplitl [Ho]; · iapply (rows_of_chunks (F := F) (U := U) d L fo); iexact Ho
    iexists _; isplitr
    · ipureintro; exact fun p hp => .inl hp
    · iexact HO
  iintro %_ HI
  have htr : Scf.trips k0_t1_loop.lb k0_t1_loop.ub k0_t1_loop.st = 40 := by decide
  rw [htr]
  unfold tripInv
  simp only [show (40 : ℕ) ≠ 0 by decide, ↓reduceIte, show (40 : ℕ) - 1 = 39 by decide]
  unfold gFl0 gFl1 oFl0 oFl1
  icases HI with ⟨-, ⟨%fr0, %fr1, ⟨FG0, Hix0⟩, ⟨FG1, Hix1⟩⟩, ⟨%frr, Hrwr⟩, Hsh0, Hsh1, ⟨%fob, %fc0, %fc1, %fob0, %fob1, FO0, FO1, Hobr⟩, Hrows, ⟨%W', %hW', HO⟩⟩
  sl_exec
  sl_step
  unfold tdT
  -- the table's and the index row's shares, the result chunks, the shared table's read share and the kept remainder
  isplitl [Hx' Hi' Hrows FO0_dst FO1_dst Hsh0 Hsh1 Hkeep]
  · isplitl [Hx']; · iexact Hx'
    isplitl [Hi']; · iexact Hi'
    isplitl [Hrows FO0_dst FO1_dst]
    · iapply (rows_close (F := F) (U := U) d L fc0 fc1)
      isplitl [Hrows]; · iexact Hrows
      isplitl [FO0_dst]; · iexact FO0_dst
      iexact FO1_dst
    isplitl [Hsh0 Hsh1]
    · iapply (pointsTo_share (PosShare.mem_left_op_right (shTok (jV L)))).2
      isplitl [Hsh0]; · iexact Hsh0
      iexact Hsh1
    iexact Hkeep
  isplitl [Hat Hrch1]
  · isplitl [Hat]; · iexact Hat
    iexact Hrch1
  -- the scratches, whole again
  isplitl [Hix0 Hix1 FG0_dst FG1_dst Hrwr FO0_src FO1_src Hobr]
  · isplitl [Hix0 Hix1]
    · iexists _
      iapply (pointsTo_share (PosShare.mem_left_op_right fullShare)).2
      isplitl [Hix0]; · iexact Hix0
      iexact Hix1
    isplitl [FG0_dst FG1_dst Hrwr]
    · ihave H1 := (pts_join (F := F) (U := U) (sdiff_join_disj rw_slots_disjoint) fr0 frr) $$ [FG0_dst Hrwr]
      · isplitl [FG0_dst]; · iexact FG0_dst
        iexact Hrwr
      icases H1 with ⟨%g1, H1⟩
      rw [sdiff_join_left rw_slots_disjoint]
      ihave H2 := (pts_join (F := F) (U := U) Finset.disjoint_sdiff fr1 g1) $$ [FG1_dst H1]
      · isplitl [FG1_dst]; · iexact FG1_dst
        iexact H1
      icases H2 with ⟨%g2, H2⟩
      rw [sdiff_join_all]
      iexists g2; iexact H2
    · ihave H1 := (pts_join (F := F) (U := U) (sdiff_join_disj ob_slots_disjoint) fob0 fob) $$ [FO0_src Hobr]
      · isplitl [FO0_src]; · iexact FO0_src
        iexact Hobr
      icases H1 with ⟨%g1, H1⟩
      rw [sdiff_join_left ob_slots_disjoint]
      ihave H2 := (pts_join (F := F) (U := U) Finset.disjoint_sdiff fob1 g1) $$ [FO1_src H1]
      · isplitl [FO1_src]; · iexact FO1_src
        iexact H1
      icases H2 with ⟨%g2, H2⟩
      rw [sdiff_join_all]
      iexists g2; iexact H2
  -- the six semaphores at zero
  isplitl [HsA HsB FG0 FG1 FO0 FO1]
  · isplitl [HsA]; · iexact HsA
    isplitl [HsB]; · iexact HsB
    isplitl [FG0]; · iexact FG0
    isplitl [FG1]; · iexact FG1
    isplitl [FO0]; · iexact FO0
    iexact FO1
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

end Body
end Cert.Proof.Tile
end
-- ==== Proof.BodyGenV.lean ====
/-
  The gather-sum kernel on one vector subcore, stated over ANY schedule of the barrier cells.

  The subcore's run uses the barrier's schedule only through five facts at the call's round: every sibling's cell names
  the subcore as a duty of the round, each such duty is one unit, the subcore's own round expects sixteen units, the
  staged stripe splits into what is kept and what the sixteen duties hand over, and what the subcore's own round
  collects is its read share of the whole shared table.  With these as hypotheses, and the round and the call's number
  as parameters, one text serves every call and whatever schedule the launch fixed.  The forty trips' step is a
  hypothesis too.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefs
import proofs.«205366_g3083786518796_cont_9to1_852_38_alg».proof.Proof.BodyLemmas
import proofs.«205366_g3083786518796_cont_9to1_852_38_alg».proof.Proof.BodyInv
import proofs.«205366_g3083786518796_cont_9to1_852_38_alg».proof.Proof.BodyJoin
import proofs.«205366_g3083786518796_cont_9to1_852_38_alg».proof.Proof.BodyGen
import proofs.«205366_g3083786518796_cont_9to1_852_38_alg».proof.Proof.BodyStepV
import proofs.«205366_g3083786518796_cont_9to1_852_38_alg».proof.Proof.BodyStepsV

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

section Body
variable (d : Dev nD) (L : grid0.Coords)

open Idealize.ShloMosaic.ValueIdx (ix1 ix2 ix3)

section GV
variable (Tx : S10000x128.Idx → Elt F .f32) (Ix : S32x10496.Idx → Elt F .i32)

/-- Handed back, with what the chunks hold: as `tdT`, every result chunk at its rows of the neighbour-sum array. -/
def tdTV (qx qi : PosShare TreeShare) : sProp 𝕄 :=
  iprop((xLoc d ↦{qx} Tx) ∗ (iLoc d ↦[iRowSet L]{qi} Ix)
    ∗ (bigSep Finset.univ fun tb : Fin k0_t1_loop.trips × Fin 2 =>
        iprop(∃ f, (oLoc d ↦[oChunkSet L tb.1 tb.2]{fullShare} f) ∗ ⌜∀ x ∈ oChunkSet L tb.1 tb.2, f x = Cert.Proof.KI.gsumF (F := F) Tx Ix x⌝))
    ∗ (shLoc d (cV L) ↦{shTok (jV L)} Tx) ∗ (shLoc d (cV L) ↦[stripe (jL L)]{shKeep} Tx))

theorem rows_of_chunksV (fo : S10240x128.Idx → Elt F .f32) :
    (bigSep Finset.univ fun tb : Fin k0_t1_loop.trips × Fin 2 => (oLoc d ↦[oChunkSet L tb.1 tb.2]{fullShare} fo : sProp 𝕄))
    ⊢ bigSep Finset.univ fun t' : Fin k0_t1_loop.trips => rowStV (U := U) d L Tx Ix 0 t' := by
  rw [bigSep_univ_prod]
  refine bigSep_mono fun t' _ => ?_
  rw [bigSep_univ_two, rowStV_todo (F := F) (U := U) d L Tx Ix (Nat.succ_ne_zero _) (Nat.not_lt_zero _)]
  exact row_intro (F := F) (U := U) d L t' fo

theorem row_elimV (t' : Fin k0_t1_loop.trips) :
    (iprop((∃ f, ⌜ChunkOK L Tx Ix t' 0 f⌝ ∗ ((oChunkK L t' 0).view.loc (V d (cV L) (jV L)) ↦[(oChunkK L t' 0).view.set]{fullShare} f))
      ∗ (∃ f, ⌜ChunkOK L Tx Ix t' 1 f⌝ ∗ ((oChunkK L t' 1).view.loc (V d (cV L) (jV L)) ↦[(oChunkK L t' 1).view.set]{fullShare} f))) : sProp 𝕄)
    ⊢ iprop((∃ f, (oLoc d ↦[oChunkSet L t' 0]{fullShare} f) ∗ ⌜∀ x ∈ oChunkSet L t' 0, f x = Cert.Proof.KI.gsumF (F := F) Tx Ix x⌝)
        ∗ (∃ f, (oLoc d ↦[oChunkSet L t' 1]{fullShare} f) ∗ ⌜∀ x ∈ oChunkSet L t' 1, f x = Cert.Proof.KI.gsumF (F := F) Tx Ix x⌝)) := by
  iintro ⟨⟨%f0, %h0, H0⟩, ⟨%f1, %h1, H1⟩⟩
  isplitl [H0]
  · iexists f0; isplitl [H0]
    · iapply (Entails.of_eq (pts_oChunk (F := F) (U := U) d L t' 0 f0)); iexact H0
    · ipureintro; exact h0
  · iexists f1; isplitl [H1]
    · iapply (Entails.of_eq (pts_oChunk (F := F) (U := U) d L t' 1 f1)); iexact H1
    · ipureintro; exact h1

/-- All result chunks held again, each at its rows of the neighbour-sum array. -/
theorem rows_closeV (fc0 fc1 : S10240x128.Idx → Elt F .f32) (h0 : ChunkOK L Tx Ix (tFin 39) 0 fc0) (h1 : ChunkOK L Tx Ix (tFin 39) 1 fc1) :
    iprop((bigSep Finset.univ fun t' : Fin k0_t1_loop.trips => rowStV (U := U) (F := F) d L Tx Ix 40 t')
      ∗ ((oChunkK L (tFin 39) 0).view.loc (V d (cV L) (jV L)) ↦[(oChunkK L (tFin 39) 0).view.set]{fullShare} fc0)
      ∗ ((oChunkK L (tFin 39) 1).view.loc (V d (cV L) (jV L)) ↦[(oChunkK L (tFin 39) 1).view.set]{fullShare} fc1))
    ⊢ bigSep Finset.univ fun tb : Fin k0_t1_loop.trips × Fin 2 =>
        (iprop(∃ f, (oLoc d ↦[oChunkSet L tb.1 tb.2]{fullShare} f) ∗ ⌜∀ x ∈ oChunkSet L tb.1 tb.2, f x = Cert.Proof.KI.gsumF (F := F) Tx Ix x⌝) : sProp 𝕄) := by
  rw [bigSep_univ_prod]
  have hrest : Idealize.SL.BI.Entails
      (bigSep (Finset.univ.erase (tFin 39)) fun t' : Fin k0_t1_loop.trips => rowStV (U := U) (F := F) d L Tx Ix 40 t')
      (bigSep (Finset.univ.erase (tFin 39)) fun t' : Fin k0_t1_loop.trips => bigSep Finset.univ fun b : Fin 2 =>
        (iprop(∃ f, (oLoc d ↦[oChunkSet L (t', b).1 (t', b).2]{fullShare} f) ∗ ⌜∀ x ∈ oChunkSet L (t', b).1 (t', b).2, f x = Cert.Proof.KI.gsumF (F := F) Tx Ix x⌝) : sProp 𝕄)) :=
    bigSep_mono fun t' ht' => by
      have hne : t'.val + 1 ≠ 40 := fun h => (Finset.mem_erase.mp ht').1 (Fin.ext (by show t'.val = min 39 39; omega))
      have hlt : t'.val < 40 := lt_of_lt_of_eq t'.isLt k0_trips_eq
      rw [bigSep_univ_two, rowStV_done (F := F) (U := U) d L Tx Ix hne hlt]
      exact row_elimV (F := F) (U := U) d L Tx Ix t'
  iintro ⟨Hrows, H0, H1⟩
  ihave Hr := (Entails.of_eq (SparseCore.bigSep_erase' (Φ := fun t' : Fin k0_t1_loop.trips => rowStV (U := U) (F := F) d L Tx Ix 40 t') (Finset.mem_univ (tFin 39)))) $$ Hrows
  icases Hr with ⟨-, Hrest⟩
  iapply (Entails.of_eq (SparseCore.bigSep_erase' (Φ := fun t' : Fin k0_t1_loop.trips => bigSep Finset.univ fun b : Fin 2 =>
    (iprop(∃ f, (oLoc d ↦[oChunkSet L (t', b).1 (t', b).2]{fullShare} f) ∗ ⌜∀ x ∈ oChunkSet L (t', b).1 (t', b).2, f x = Cert.Proof.KI.gsumF (F := F) Tx Ix x⌝) : sProp 𝕄)) (Finset.mem_univ (tFin 39))).symm)
  isplitl [H0 H1]
  · rw [bigSep_univ_two]
    isplitl [H0]
    · iexists fc0; isplitl [H0]
      · iapply (Entails.of_eq (pts_oChunk (F := F) (U := U) d L (tFin 39) 0 fc0)); iexact H0
      · ipureintro; exact h0
    · iexists fc1; isplitl [H1]
      · iapply (Entails.of_eq (pts_oChunk (F := F) (U := U) d L (tFin 39) 1 fc1)); iexact H1
      · ipureintro; exact h1
  · iapply (SparseCore.ent hrest) $$ Hrest

end GV

set_option maxHeartbeats 4000000 in
/-- The kernel on vector subcore `L`: the index row and the stripe copied in and waited for (the executor); the barrier
    (the stripe's read shares handed over, every stripe's received); the two first gathers; the forty trips (the invariant
    `tripInv`, each trip `trip_region`); the four last waits. -/
theorem tile_body_genV (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid0.bound 1), (jV L).val ∈ Rd.duties (bcell d (cV L) (j.castLE hsub0)) rC)
    (hamt : ∀ j : Fin (grid0.bound 1), Rd.amount (bcell d (cV L) (j.castLE hsub0)) rC (jV L).val = 1)
    (hexp : 0 + grid0.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid0.bound 1) => Rd.payload (bcell d (cV L) (j.castLE hsub0)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (htrip : ∀ (v2 : BitVec 32) (k : Fin k0_t1_loop.trips) (x : PUnit),
      tripInvV (F := F) (U := U) d L Tx Ix O
          (insert (SemLoc.reg sc_bar0, some qC) (insert (SemLoc.dma cc0_scoped1.sem, (default : HIx 3)) (insert (SemLoc.dma cc0_scoped0.sem, (default : HIx 3)) W))) k.val x
        ⊢ wp frame (wpE (defs₀ (F := F)) 𝒱₀ (V d (cV L) (jV L)) none) Set.univ
            (k0_t1_body L xV (Memref.isWhole_whole _) iV (Memref.isWhole_whole _) oV (Memref.isWhole_whole _)
              ixV (Memref.isWhole_whole _) rwV (Memref.isWhole_whole _) obV (Memref.isWhole_whole _) shV (Memref.isWhole_whole _)
              cc0_scratch4 cc0_scratch5 cc0_scoped0 cc0_scoped1 v2 k x)
            (tripInvV (F := F) (U := U) d L Tx Ix O
              (insert (SemLoc.reg sc_bar0, some qC) (insert (SemLoc.dma cc0_scoped1.sem, (default : HIx 3)) (insert (SemLoc.dma cc0_scoped0.sem, (default : HIx 3)) W))) (k.val + 1)))
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f))
        ∗ (semVal (cell d L cc0_scoped0.sem) 0 ∗ semVal (cell d L cc0_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc0__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1)
          fun _ => iprop(tdTV d L Tx Ix qx qi
            ∗ (atPos EB (bcell d (cV L) (jV L)) (rC + 1) (∅ : Finset ℕ) 0 ∗ reached (D := ℕ) EB (bcell d (cV L) (jV L)) (rC + 1))
            ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f))
            ∗ (semVal (cell d L cc0_scoped0.sem) 0 ∗ semVal (cell d L cc0_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') := by
  simp only [cc0__sc_gather_sum_eq_skeleton]; unfold cc0__sc_gather_sum_skel
  unfold bkitR goT
  iintro ⟨#Hlv, ⟨⟨%κ, #Hinv⟩, Htoks, #Hrch, Hat, Hcred⟩, ⟨Hx, Hi, Ho, %fsh, Hsh⟩, ⟨⟨%f0, Hb0⟩, ⟨%f1, Hb1⟩, ⟨%f2, Hb2⟩⟩, ⟨HsA, HsB, Hg0, Hg1, Ho0, Ho1⟩, HO⟩
  have hO' : ∀ g, (O + oxV d (cV L) qC) g none = 0 := fun g => by rw [Pi.add_apply, Finsupp.add_apply, hO g, oxV_none]
  ihave Hmw1 := (show levAts (K (F := F)).L (K (F := F)).lev ⊢ Transfers.MayWaits (V d (cV L) (jV L)) (default : HIx 3) (O + oxV d (cV L) qC) from
    (K (F := F)).mayWaits_none (thr := V d (cV L) (jV L)) hO') $$ Hlv
  ihave Hmw2 := (show levAts (K (F := F)).L (K (F := F)).lev ⊢ Transfers.MayWaits (V d (cV L) (jV L)) (default : HIx 3) O from
    (K (F := F)).mayWaits_none (thr := V d (cV L) (jV L)) hO) $$ Hlv
  ihave Hx' := (Entails.of_eq (pts_x (F := F) (U := U) d L _ _).symm) $$ Hx
  ihave Hi' := (Entails.of_eq (pts_iRow (F := F) (U := U) d L _ _).symm) $$ Hi
  ihave Hsh' := (Entails.of_eq (pts_shStripe (F := F) (U := U) d L _ _).symm) $$ Hsh
  ihave Hix' := (Entails.of_eq (pts_ix (F := F) (U := U) d L _).symm) $$ Hb0
  ihave Hrw' := (Entails.of_eq (pts_rw (F := F) (U := U) d L _).symm) $$ Hb1
  ihave Hob' := (Entails.of_eq (pts_ob (F := F) (U := U) d L _).symm) $$ Hb2
  -- the index row into the index scratch, the stripe into the shared table, each waited for
  sl_exec (disch := first | exact View.amount_pos _ _ (stripe_numel_pos L) | exact View.dmaCredit_pos _ (stripe_numel_pos L))
  -- the barrier: the stripe, holding the table's rows, handed over by read shares; every stripe's share received
  unfold tile_body_genV.sl.dma0_1 tile_body_genV.sl.dma0
  ihave Hsh3 := (stripe_fix (F := F) (U := U) d L Tx fsh) $$ Hsh'
  ihave Hpk := hin_pay $$ Hsh3
  icases Hpk with ⟨Hkeep, Hpays⟩
  iapply (SparseCore.wp_subcoreBarrier 𝒱₀ none EB Rd d (sc := cV L) (i := jV L) sc_bar0 (grid0.bound 1) hsub0 (L 1) rfl κ (fun _ => rC) (jV L).val
      hmem hamt hexp (some qC) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) (8 * qC.val + 3) (fun p hp => by
        rw [Finset.mem_singleton] at hp; subst hp
        show (K (F := F)).lev (bcell d (cV L) (jV L)) (some qC) ≤ 8 * qC.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hrch1, Hgot⟩
  ihave Hall := hout_pay $$ Hgot
  -- the index scratch holds row `wid`; every window of it names rows of the table
  ihave Hix2 := (idx_fix (F := F) (U := U) d L Ix f0) $$ Hix'
  have hinR := idx_inb (F := F) L Ix hin
  ihave Hall' := (Entails.of_eq (show ((shV).view.loc (V d (cV L) (jV L)) ↦{shTok (jV L)} Tx : sProp 𝕄) = shLoc d (cV L) ↦{shTok (jV L)} Tx from rfl).symm) $$ Hall
  ihave HallS := (pointsTo_share (PosShare.mem_left_op_right (shTok (jV L)))).1 $$ Hall'
  icases HallS with ⟨HallA, HallB⟩
  ihave HixS := (pointsTo_share (PosShare.mem_left_op_right fullShare)).1 $$ Hix2
  icases HixS with ⟨HixA, HixB⟩
  -- the two first gathers
  sl_exec
  -- the forty trips
  sl_for (tripInvV d L Tx Ix O (insert (SemLoc.reg sc_bar0, some qC) (insert (SemLoc.dma cc0_scoped1.sem, (default : HIx 3)) (insert (SemLoc.dma cc0_scoped0.sem, (default : HIx 3)) W)))) $$ [Hmw2 Hg0 Hg1 HixA HixB HallA HallB Hrw' Hob' Ho0 Ho1 Ho HO]
  case region =>
    intro k x
    unfold tile_body_genV.sl.prog.body_1
    exact htrip _ k x
  · unfold tripInvV
    simp only [↓reduceIte]
    unfold gFl0 gFl1
    isplitr; · iexact Hmw2
    isplitl [Hg0 Hg1 HixA HixB]
    · iexists _; iexists _
      isplitr
      swap
      · isplitl [Hg0 HixA]
        · isplitl [Hg0]; · iexact Hg0
          iexact HixA
        · isplitl [Hg1]; · iexact Hg1
          iexact HixB
      ipureintro
      exact ⟨rows_ok0 (F := F) L Tx Ix 0 (by omega) _ rfl _ _ _ _, rows_ok1 (F := F) L Tx Ix 1 (by omega) _ rfl _ _ _ _⟩
    isplitl [Hrw']; · iexists _; iexact Hrw'
    isplitl [HallA]; · iexact HallA
    isplitl [HallB]; · iexact HallB
    isplitl [Hob' Ho0 Ho1]
    · iexists _
      isplitl [Hob']; · iexact Hob'
      isplitl [Ho0]; · iexact Ho0
      iexact Ho1
    isplitl [Ho]; · iapply (rows_of_chunksV (F := F) (U := U) d L Tx Ix fo); iexact Ho
    iexists _; isplitr
    · ipureintro; exact fun p hp => .inl hp
    · iexact HO
  iintro %_ HI
  have htr : Scf.trips k0_t1_loop.lb k0_t1_loop.ub k0_t1_loop.st = 40 := by decide
  rw [htr]
  unfold tripInvV
  simp only [show (40 : ℕ) ≠ 0 by decide, ↓reduceIte, show (40 : ℕ) - 1 = 39 by decide]
  unfold gFl0 gFl1 oFl0 oFl1
  icases HI with ⟨-, ⟨%fr0, %fr1, -, ⟨FG0, Hix0⟩, ⟨FG1, Hix1⟩⟩, ⟨%frr, Hrwr⟩, Hsh0, Hsh1, ⟨%fob, %fc0, %fc1, %fob0, %fob1, %hchk, FO0, FO1, Hobr⟩, Hrows, ⟨%W', %hW', HO⟩⟩
  sl_exec
  sl_step
  unfold tdTV
  -- the table's and the index row's shares, the result chunks, the shared table's read share and the kept remainder
  isplitl [Hx' Hi' Hrows FO0_dst FO1_dst Hsh0 Hsh1 Hkeep]
  · isplitl [Hx']; · iexact Hx'
    isplitl [Hi']; · iexact Hi'
    isplitl [Hrows FO0_dst FO1_dst]
    · iapply (rows_closeV (F := F) (U := U) d L Tx Ix fc0 fc1 hchk.1 hchk.2)
      isplitl [Hrows]; · iexact Hrows
      isplitl [FO0_dst]; · iexact FO0_dst
      iexact FO1_dst
    isplitl [Hsh0 Hsh1]
    · iapply (pointsTo_share (PosShare.mem_left_op_right (shTok (jV L)))).2
      isplitl [Hsh0]; · iexact Hsh0
      iexact Hsh1
    iexact Hkeep
  isplitl [Hat Hrch1]
  · isplitl [Hat]; · iexact Hat
    iexact Hrch1
  -- the scratches, whole again
  isplitl [Hix0 Hix1 FG0_dst FG1_dst Hrwr FO0_src FO1_src Hobr]
  · isplitl [Hix0 Hix1]
    · iexists _
      iapply (pointsTo_share (PosShare.mem_left_op_right fullShare)).2
      isplitl [Hix0]; · iexact Hix0
      iexact Hix1
    isplitl [FG0_dst FG1_dst Hrwr]
    · ihave H1 := (pts_join (F := F) (U := U) (sdiff_join_disj rw_slots_disjoint) fr0 frr) $$ [FG0_dst Hrwr]
      · isplitl [FG0_dst]; · iexact FG0_dst
        iexact Hrwr
      icases H1 with ⟨%g1, H1⟩
      rw [sdiff_join_left rw_slots_disjoint]
      ihave H2 := (pts_join (F := F) (U := U) Finset.disjoint_sdiff fr1 g1) $$ [FG1_dst H1]
      · isplitl [FG1_dst]; · iexact FG1_dst
        iexact H1
      icases H2 with ⟨%g2, H2⟩
      rw [sdiff_join_all]
      iexists g2; iexact H2
    · ihave H1 := (pts_join (F := F) (U := U) (sdiff_join_disj ob_slots_disjoint) fob0 fob) $$ [FO0_src Hobr]
      · isplitl [FO0_src]; · iexact FO0_src
        iexact Hobr
      icases H1 with ⟨%g1, H1⟩
      rw [sdiff_join_left ob_slots_disjoint]
      ihave H2 := (pts_join (F := F) (U := U) Finset.disjoint_sdiff fob1 g1) $$ [FO1_src H1]
      · isplitl [FO1_src]; · iexact FO1_src
        iexact H1
      icases H2 with ⟨%g2, H2⟩
      rw [sdiff_join_all]
      iexists g2; iexact H2
  -- the six semaphores at zero
  isplitl [HsA HsB FG0 FG1 FO0 FO1]
  · isplitl [HsA]; · iexact HsA
    isplitl [HsB]; · iexact HsB
    isplitl [FG0]; · iexact FG0
    isplitl [FG1]; · iexact FG1
    isplitl [FO0]; · iexact FO0
    iexact FO1
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

end Body
end Cert.Proof.Tile
end
-- ==== Proof.BodyFrameV.lean ====
/-
  The gather-sum kernel on one vector subcore, with what it computes: run from what the subcore is handed to what it hands
  back, every result chunk holding its rows of the neighbour-sum array; every trip of the forty proved.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefs
import proofs.«205366_g3083786518796_cont_9to1_852_38_alg».proof.Proof.BodyLemmas
import proofs.«205366_g3083786518796_cont_9to1_852_38_alg».proof.Proof.BodyInv
import proofs.«205366_g3083786518796_cont_9to1_852_38_alg».proof.Proof.BodyJoin
import proofs.«205366_g3083786518796_cont_9to1_852_38_alg».proof.Proof.GSum
import proofs.«205366_g3083786518796_cont_9to1_852_38_alg».proof.Proof.BodyInvV
import proofs.«205366_g3083786518796_cont_9to1_852_38_alg».proof.Proof.BodyTrip
import proofs.«205366_g3083786518796_cont_9to1_852_38_alg».proof.Proof.BodyStepV
import proofs.«205366_g3083786518796_cont_9to1_852_38_alg».proof.Proof.BodyInnerV
import proofs.«205366_g3083786518796_cont_9to1_852_38_alg».proof.Proof.BodyStepsV
import proofs.«205366_g3083786518796_cont_9to1_852_38_alg».proof.Proof.BodyTripV
import proofs.«205366_g3083786518796_cont_9to1_852_38_alg».proof.Proof.BodyGenV
import Idealize.ShloMosaic.Lib.ValueIdx

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_arg0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v8_scv : Memref Cert.KernelIdeal.sig Kind.scVector Space.hbm Cert.KernelIdeal.S10240x128 EltTy.f32)
local notation "ixV" => (Memref.whole Cert.KernelIdeal.cc0_scratch0 : Memref Cert.KernelIdeal.sig Kind.scVector Space.vmem Cert.KernelIdeal.S10496 EltTy.i32)
local notation "rwV" => (Memref.whole Cert.KernelIdeal.cc0_scratch1 : Memref Cert.KernelIdeal.sig Kind.scVector Space.vmem Cert.KernelIdeal.S2x128x128 EltTy.f32)
local notation "obV" => (Memref.whole Cert.KernelIdeal.cc0_scratch2 : Memref Cert.KernelIdeal.sig Kind.scVector Space.vmem Cert.KernelIdeal.S2x4x128 EltTy.f32)
local notation "shV" => (Memref.whole Cert.KernelIdeal.cc0_scratch3 : Memref Cert.KernelIdeal.sig Kind.scVector Space.shared Cert.KernelIdeal.S10000x128 EltTy.f32)

section Body
variable (d : Dev nD) (L : grid0.Coords)

open Idealize.ShloMosaic.ValueIdx (ix1 ix2 ix3)

/-- The kernel on vector subcore `L`, every trip proved, the result chunks at their sums. -/
theorem tile_body_frameV (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid0.bound 1), (jV L).val ∈ Rd.duties (bcell d (cV L) (j.castLE hsub0)) rC)
    (hamt : ∀ j : Fin (grid0.bound 1), Rd.amount (bcell d (cV L) (j.castLE hsub0)) rC (jV L).val = 1)
    (hexp : 0 + grid0.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid0.bound 1) => Rd.payload (bcell d (cV L) (j.castLE hsub0)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f))
        ∗ (semVal (cell d L cc0_scoped0.sem) 0 ∗ semVal (cell d L cc0_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc0__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1)
          fun _ => iprop(tdTV d L Tx Ix qx qi
            ∗ (atPos EB (bcell d (cV L) (jV L)) (rC + 1) (∅ : Finset ℕ) 0 ∗ reached (D := ℕ) EB (bcell d (cV L) (jV L)) (rC + 1))
            ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f))
            ∗ (semVal (cell d L cc0_scoped0.sem) 0 ∗ semVal (cell d L cc0_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') :=
  tile_body_genV (F := F) (U := U) d L EB Rd rC qC qx qi Tx Ix fo hmem hamt hexp hin_pay hout_pay hin O W hO
    (fun v2 k x => trip_regionV (F := F) (U := U) d L Tx Ix (idx_inb (F := F) L Ix hin) O _ v2 k x) hOlev
end Body
end Cert.Proof.Tile
end
-- ==== Proof.BodyInvC1.lean ====
/-
  The invariant of the gather-sum kernel's forty trips, for one vector subcore: which gathers and copy-outs are in flight
  when `t` trips are done, and what of the scratches, of the shared table's read shares and of the result chunks is held.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC1
import proofs.«205366_g3083786518796_cont_9to1_852_38_alg».proof.Proof.BodyLemmasC1

noncomputable section

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

section Body
variable (d : Dev nD) (L : grid3.Coords)

/-! ## The forty trips' invariant -/

theorem k3_trips_eq : k3_t1_loop.trips = 40 := by decide

/-- Trip `n` as an index of the loop (clamped). -/
def tFin (n : ℕ) : Fin k3_t1_loop.trips := ⟨min n 39, by rw [k3_trips_eq]; omega⟩
theorem tFin_val (k : Fin k3_t1_loop.trips) : tFin k.val = k := Fin.ext (by have h := lt_of_lt_of_eq k.isLt k3_trips_eq; show min k.val 39 = k.val; omega)

/-- The index windows of the two gathers started before the loop, and of those a trip starts. -/
abbrev ixLit0 : Memref sig .scVector .vmem S128 .i32 := (ixV).slice (Rect.unit (s := S10496) ![0] S128.size inb_S10496_S128_0) (fun _ => rfl)
abbrev ixLit1 : Memref sig .scVector .vmem S128 .i32 := (ixV).slice (Rect.unit (s := S10496) ![128] S128.size inb_S10496_S128_128) (fun _ => rfl)
abbrev ixLoop0 (t : Fin k3_t1_loop.trips) : Memref sig .scVector .vmem S128 .i32 := (ixV).slice (Rect.unit (s := S10496) (k3_off21 t 0#32) S128.size (k3_off21_inb t 0)) (fun _ => rfl)
abbrev ixLoop1 (t : Fin k3_t1_loop.trips) : Memref sig .scVector .vmem S128 .i32 := (ixV).slice (Rect.unit (s := S10496) (k3_off21 t 1#32) S128.size (k3_off21_inb t 1)) (fun _ => rfl)

abbrev ixLoopSet0 (t : Fin k3_t1_loop.trips) : Finset S10496.Idx := (ixLoop0 t).view.set
abbrev ixLoopSet1 (t : Fin k3_t1_loop.trips) : Finset S10496.Idx := (ixLoop1 t).view.set
abbrev ixLitSet0 : Finset S10496.Idx := (ixLit0).view.set
abbrev ixLitSet1 : Finset S10496.Idx := (ixLit1).view.set

section Inv

variable (Tx : S10000x128.Idx → Elt F .f32) (Ix : S32x10496.Idx → Elt F .i32)

/-- A gather in flight into slot 0 (resp. 1) of the row scratch, over the index window `w`, and the rest of that window's
    share of the index scratch. -/
def gFl0 (ws : Finset S10496.Idx) (fr : Buf (Elt F) ((V d (cV L) (jV L)).loc cc3_scratch1)) : sProp 𝕄 :=
  iprop(Transfers.Flight (countersEmb : UEmb Counters 𝕄) (V d (cV L) (jV L)) (SemLoc.dma g0sem) (default : HIx 3) 524288
      iprop((((rwV).view.loc (V d (cV L) (jV L)) ↦[(rwK0).view.set]{fullShare} fr)
          ∗ ((ixV).view.loc (V d (cV L) (jV L)) ↦[ws]{fullShare.left} (iRowK L).view.read (Elt F) Ix))
        ∗ ((shV).view.loc (V d (cV L) (jV L)) ↦[(shAllK).view.set]{(shTok (jV L)).left} Tx))
    ∗ ((ixV).view.loc (V d (cV L) (jV L)) ↦[Finset.univ \ ws]{fullShare.left} (iRowK L).view.read (Elt F) Ix))
def gFl1 (ws : Finset S10496.Idx) (fr : Buf (Elt F) ((V d (cV L) (jV L)).loc cc3_scratch1)) : sProp 𝕄 :=
  iprop(Transfers.Flight (countersEmb : UEmb Counters 𝕄) (V d (cV L) (jV L)) (SemLoc.dma g1sem) (default : HIx 3) 524288
      iprop((((rwV).view.loc (V d (cV L) (jV L)) ↦[(rwK1).view.set]{fullShare} fr)
          ∗ ((ixV).view.loc (V d (cV L) (jV L)) ↦[ws]{fullShare.right} (iRowK L).view.read (Elt F) Ix))
        ∗ ((shV).view.loc (V d (cV L) (jV L)) ↦[(shAllK).view.set]{(shTok (jV L)).right} Tx))
    ∗ ((ixV).view.loc (V d (cV L) (jV L)) ↦[Finset.univ \ ws]{fullShare.right} (iRowK L).view.read (Elt F) Ix))

/-- A copy-out in flight from slot 0 (resp. 1) of the result scratch to the chunk of trip `t`. -/
def oFl0 (t : Fin k3_t1_loop.trips) (fc : S10240x128.Idx → Elt F .f32) (fob : Buf (Elt F) ((V d (cV L) (jV L)).loc cc3_scratch2)) : sProp 𝕄 :=
  Transfers.Flight (countersEmb : UEmb Counters 𝕄) (V d (cV L) (jV L)) (SemLoc.dma o0sem) (default : HIx 3) 16384
    iprop(((oChunkK L t 0).view.loc (V d (cV L) (jV L)) ↦[(oChunkK L t 0).view.set]{fullShare} fc)
      ∗ ((obV).view.loc (V d (cV L) (jV L)) ↦[(obK0).view.set]{fullShare} fob))
def oFl1 (t : Fin k3_t1_loop.trips) (fc : S10240x128.Idx → Elt F .f32) (fob : Buf (Elt F) ((V d (cV L) (jV L)).loc cc3_scratch2)) : sProp 𝕄 :=
  Transfers.Flight (countersEmb : UEmb Counters 𝕄) (V d (cV L) (jV L)) (SemLoc.dma o1sem) (default : HIx 3) 16384
    iprop(((oChunkK L t 1).view.loc (V d (cV L) (jV L)) ↦[(oChunkK L t 1).view.set]{fullShare} fc)
      ∗ ((obV).view.loc (V d (cV L) (jV L)) ↦[(obK1).view.set]{fullShare} fob))

/-- The two result chunks of trip `t'` when `t` trips are done: in flight (trip `t - 1`'s), else held at some contents. -/
def rowSt (t : ℕ) (t' : Fin k3_t1_loop.trips) : sProp 𝕄 :=
  if t'.val + 1 = t then iprop(emp)
  else iprop((∃ f, (oChunkK L t' 0).view.loc (V d (cV L) (jV L)) ↦[(oChunkK L t' 0).view.set]{fullShare} f)
    ∗ (∃ f, (oChunkK L t' 1).view.loc (V d (cV L) (jV L)) ↦[(oChunkK L t' 1).view.set]{fullShare} f))

/-- When `t` trips are done: the gathers of chunks `2 t` and `2 t + 1` are in flight; the copy-outs of trip `t - 1` are
    (none before the first trip); the scratches less the slots in flight are held; the shared table's two read shares less
    nothing; every other result chunk is held. -/
def tripInv (O : CellTallies nD τ sig (HIx 3)) (W : Waits sig (HIx 3)) (t : ℕ) (_ : PUnit) : sProp 𝕄 :=
  iprop(Transfers.MayWaits (V d (cV L) (jV L)) (default : HIx 3) O
    ∗ (if t = 0 then iprop(∃ fr0 fr1 : Buf (Elt F) ((V d (cV L) (jV L)).loc cc3_scratch1), gFl0 d L Tx Ix ixLitSet0 fr0 ∗ gFl1 d L Tx Ix ixLitSet1 fr1)
        else iprop(∃ fr0 fr1 : Buf (Elt F) ((V d (cV L) (jV L)).loc cc3_scratch1),
          gFl0 d L Tx Ix (ixLoopSet0 (tFin (t - 1))) fr0 ∗ gFl1 d L Tx Ix (ixLoopSet1 (tFin (t - 1))) fr1))
    ∗ (∃ frr : Buf (Elt F) ((V d (cV L) (jV L)).loc cc3_scratch1),
        (rwV).view.loc (V d (cV L) (jV L)) ↦[(Finset.univ \ (rwK0).view.set) \ (rwK1).view.set]{fullShare} frr)
    ∗ ((shV).view.loc (V d (cV L) (jV L)) ↦[Finset.univ \ (shAllK).view.set]{(shTok (jV L)).left} Tx)
    ∗ ((shV).view.loc (V d (cV L) (jV L)) ↦[Finset.univ \ (shAllK).view.set]{(shTok (jV L)).right} Tx)
    ∗ (if t = 0 then iprop(∃ fob : Buf (Elt F) ((V d (cV L) (jV L)).loc cc3_scratch2), ((obV).view.loc (V d (cV L) (jV L)) ↦{fullShare} fob)
            ∗ semVal (V d (cV L) (jV L), SemLoc.dma o0sem) 0 ∗ semVal (V d (cV L) (jV L), SemLoc.dma o1sem) 0)
        else iprop(∃ (fob : Buf (Elt F) ((V d (cV L) (jV L)).loc cc3_scratch2)) (fc0 fc1 : S10240x128.Idx → Elt F .f32) (fob0 fob1 : Buf (Elt F) ((V d (cV L) (jV L)).loc cc3_scratch2)),
            oFl0 d L (tFin (t - 1)) fc0 fob0 ∗ oFl1 d L (tFin (t - 1)) fc1 fob1
            ∗ ((obV).view.loc (V d (cV L) (jV L)) ↦[(Finset.univ \ (obK0).view.set) \ (obK1).view.set]{fullShare} fob)))
    ∗ (bigSep Finset.univ fun t' : Fin k3_t1_loop.trips => rowSt d L t t')
    ∗ ∃ W', ⌜∀ p ∈ W', p ∈ W ∨ p.2 = none⌝ ∗ owes (V d (cV L) (jV L)) O W')

end Inv

end Body
end Cert.Proof.Tile1
end
-- ==== Proof.BodyJoinC1.lean ====
/-
  Joining pieces of one buffer held at contents of their own; the slots of the row and result scratches are apart; the
  result chunks' rows as the trips' invariant states them, opened and closed; what the stage copy and the index copy leave.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC1
import proofs.«205366_g3083786518796_cont_9to1_852_38_alg».proof.Proof.BodyLemmasC1
import proofs.«205366_g3083786518796_cont_9to1_852_38_alg».proof.Proof.BodyInvC1

noncomputable section

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

section Body
variable (d : Dev nD) (L : grid3.Coords)

/-! ## Two pieces of one buffer, at contents of their own, are their union at some contents -/

theorem pts_join {ℓ : Loc nD τ sig} {q : PosShare TreeShare} {A B : Finset (Idx ℓ)} (h : Disjoint A B) (f g : Buf (Elt F) ℓ) :
    iprop((ℓ ↦[A]{q} f) ∗ (ℓ ↦[B]{q} g)) ⊢ (iprop(∃ h, ℓ ↦[A ∪ B]{q} h) : sProp 𝕄) := by
  classical
  have e1 : (ℓ ↦[A]{q} f : sProp 𝕄) = ℓ ↦[A]{q} (fun i => if i ∈ A then f i else g i) := pointsTo_congr fun i hi => by simp [hi]
  have e2 : (ℓ ↦[B]{q} g : sProp 𝕄) = ℓ ↦[B]{q} (fun i => if i ∈ A then f i else g i) := pointsTo_congr fun i hi => by
    have : i ∉ A := fun ha => (Finset.disjoint_left.mp h ha hi)
    simp [this]
  iintro ⟨HA, HB⟩
  iexists (fun i => if i ∈ A then f i else g i)
  ihave HA' := (Entails.of_eq e1) $$ HA
  ihave HB' := (Entails.of_eq e2) $$ HB
  iapply (pointsTo_split_subset (S := A ∪ B) (I := A) Finset.subset_union_left).2
  isplitl [HA']; · iexact HA'
  rw [Finset.union_sdiff_cancel_left h]; iexact HB'

/-- The two slots of the row scratch, and of the result scratch, are apart. -/
theorem set_rwK0 : (rwK0).view.set = (Rect.unit (s := S2x128x128) ![0, 0, 0] S1x128x128.size inb_S2x128x128_S1x128x128_0_0_0).set := by
  show (((rwV).view.slice (Rect.unit (s := S2x128x128) ![0, 0, 0] S1x128x128.size inb_S2x128x128_S1x128x128_0_0_0)).reshape S128x128 squeezes_S1x128x128_S128x128.numel_eq).set = _
  rw [View.set_reshape, View.set_slice_whole]
theorem set_rwK1 : (rwK1).view.set = (Rect.unit (s := S2x128x128) ![1, 0, 0] S1x128x128.size inb_S2x128x128_S1x128x128_1_0_0).set := by
  show (((rwV).view.slice (Rect.unit (s := S2x128x128) ![1, 0, 0] S1x128x128.size inb_S2x128x128_S1x128x128_1_0_0)).reshape S128x128 squeezes_S1x128x128_S128x128.numel_eq).set = _
  rw [View.set_reshape, View.set_slice_whole]
theorem set_obK0 : (obK0).view.set = (Rect.unit (s := S2x4x128) ![0, 0, 0] S1x4x128.size inb_S2x4x128_S1x4x128_0_0_0).set := by
  show (((obV).view.slice (Rect.unit (s := S2x4x128) ![0, 0, 0] S1x4x128.size inb_S2x4x128_S1x4x128_0_0_0)).reshape S4x128 squeezes_S1x4x128_S4x128.numel_eq).set = _
  rw [View.set_reshape, View.set_slice_whole]
theorem set_obK1 : (obK1).view.set = (Rect.unit (s := S2x4x128) ![1, 0, 0] S1x4x128.size inb_S2x4x128_S1x4x128_1_0_0).set := by
  show (((obV).view.slice (Rect.unit (s := S2x4x128) ![1, 0, 0] S1x4x128.size inb_S2x4x128_S1x4x128_1_0_0)).reshape S4x128 squeezes_S1x4x128_S4x128.numel_eq).set = _
  rw [View.set_reshape, View.set_slice_whole]
theorem rw_slots_disjoint : Disjoint (rwK0).view.set (rwK1).view.set := by
  rw [set_rwK0, set_rwK1]; exact Rect.unit_disjoint 0 (Or.inl (by decide))
theorem ob_slots_disjoint : Disjoint (obK0).view.set (obK1).view.set := by
  rw [set_obK0, set_obK1]; exact Rect.unit_disjoint 0 (Or.inl (by decide))

theorem sdiff_join_left {α : Type} [DecidableEq α] [Fintype α] {A B : Finset α} (h : Disjoint A B) :
    A ∪ ((Finset.univ \ A) \ B) = Finset.univ \ B := by
  ext i
  have hd : i ∈ A → i ∉ B := fun ha => Finset.disjoint_left.mp h ha
  simp only [Finset.mem_union, Finset.mem_sdiff, Finset.mem_univ, true_and]
  tauto
theorem sdiff_join_right {α : Type} [DecidableEq α] [Fintype α] {A B : Finset α} (h : Disjoint A B) :
    B ∪ ((Finset.univ \ B) \ A) = Finset.univ \ A := sdiff_join_left h.symm
theorem sdiff_join_all {α : Type} [DecidableEq α] [Fintype α] {A : Finset α} : A ∪ (Finset.univ \ A) = Finset.univ := by
  ext i; simp only [Finset.mem_union, Finset.mem_sdiff, Finset.mem_univ, true_and]; tauto

theorem sdiff_join_disj {α : Type} [DecidableEq α] [Fintype α] {A B : Finset α} (h : Disjoint A B) : Disjoint A ((Finset.univ \ A) \ B) :=
  Finset.disjoint_left.mpr fun i hi hm => (Finset.mem_sdiff.mp (Finset.mem_sdiff.mp hm).1).2 hi

theorem row_intro (t' : Fin k3_t1_loop.trips) (fo : S10240x128.Idx → Elt F .f32) :
    iprop((oLoc d ↦[oChunkSet L t' 0]{fullShare} fo) ∗ (oLoc d ↦[oChunkSet L t' 1]{fullShare} fo))
    ⊢ (iprop((∃ f, (oChunkK L t' 0).view.loc (V d (cV L) (jV L)) ↦[(oChunkK L t' 0).view.set]{fullShare} f)
      ∗ (∃ f, (oChunkK L t' 1).view.loc (V d (cV L) (jV L)) ↦[(oChunkK L t' 1).view.set]{fullShare} f)) : sProp 𝕄) := by
  iintro ⟨H0, H1⟩
  isplitl [H0]
  · iexists fo; iapply (Entails.of_eq (pts_oChunk (F := F) (U := U) d L t' 0 fo).symm); iexact H0
  · iexists fo; iapply (Entails.of_eq (pts_oChunk (F := F) (U := U) d L t' 1 fo).symm); iexact H1

theorem row_elim (t' : Fin k3_t1_loop.trips) :
    (iprop((∃ f, (oChunkK L t' 0).view.loc (V d (cV L) (jV L)) ↦[(oChunkK L t' 0).view.set]{fullShare} f)
      ∗ (∃ f, (oChunkK L t' 1).view.loc (V d (cV L) (jV L)) ↦[(oChunkK L t' 1).view.set]{fullShare} f)) : sProp 𝕄)
    ⊢ iprop((∃ f, oLoc d ↦[oChunkSet L t' 0]{fullShare} f) ∗ (∃ f, oLoc d ↦[oChunkSet L t' 1]{fullShare} f)) := by
  iintro ⟨⟨%f0, H0⟩, ⟨%f1, H1⟩⟩
  isplitl [H0]
  · iexists f0; iapply (Entails.of_eq (pts_oChunk (F := F) (U := U) d L t' 0 f0)); iexact H0
  · iexists f1; iapply (Entails.of_eq (pts_oChunk (F := F) (U := U) d L t' 1 f1)); iexact H1

/-- The result chunks, all held, as the invariant before the first trip states them. -/
theorem rows_of_chunks (fo : S10240x128.Idx → Elt F .f32) :
    (bigSep Finset.univ fun tb : Fin k3_t1_loop.trips × Fin 2 => (oLoc d ↦[oChunkSet L tb.1 tb.2]{fullShare} fo : sProp 𝕄))
    ⊢ bigSep Finset.univ fun t' : Fin k3_t1_loop.trips => rowSt (U := U) d L 0 t' := by
  rw [bigSep_univ_prod]
  refine bigSep_mono fun t' _ => ?_
  rw [bigSep_univ_two]
  unfold rowSt
  rw [if_neg (Nat.succ_ne_zero _)]
  exact row_intro (F := F) (U := U) d L t' fo

/-- Every result chunk held again, at some contents. -/
theorem chunks_of_rows (t : ℕ) (ht : ∀ t' : Fin k3_t1_loop.trips, t'.val + 1 ≠ t) :
    (bigSep Finset.univ fun t' : Fin k3_t1_loop.trips => rowSt (U := U) (F := F) d L t t')
    ⊢ bigSep Finset.univ fun tb : Fin k3_t1_loop.trips × Fin 2 => (iprop(∃ f, oLoc d ↦[oChunkSet L tb.1 tb.2]{fullShare} f) : sProp 𝕄) := by
  rw [bigSep_univ_prod]
  refine bigSep_mono fun t' _ => ?_
  rw [bigSep_univ_two]
  unfold rowSt
  rw [if_neg (ht t')]
  exact row_elim (F := F) (U := U) d L t'

/-- After the stage copy the stripe of the shared table holds the table's rows. -/
theorem stripe_fix (Tx fsh : S10000x128.Idx → Elt F .f32) :
    ((shStripeK L).view.loc (V d (cV L) (jV L)) ↦[(shStripeK L).view.set]{fullShare}
        (shStripeK L).view.writes (Elt F) fsh [⟨Rect.whole { rank := 2, size := (k3_off2 L).2 }, ReadAs.same.apply ((xStripeK L).view.read (Elt F) Tx)⟩] : sProp 𝕄)
    ⊢ shLoc d (cV L) ↦[stripe (jL L)]{fullShare} Tx := by
  rw [pointsTo_congr (stripe_copied (F := F) L Tx fsh)]
  exact Entails.of_eq (pts_shStripe (F := F) (U := U) d L _ _)

/-- After the index copy the index scratch holds row `wid`. -/
theorem idx_fix (Ix : S32x10496.Idx → Elt F .i32) (f0 : S10496.Idx → Elt F .i32) :
    ((ixV).view.loc (V d (cV L) (jV L)) ↦{fullShare} View.write (Elt F) (ixV).view f0 (ReadAs.same.apply ((iRowK L).view.read (Elt F) Ix)) Finset.univ : sProp 𝕄)
    ⊢ (ixV).view.loc (V d (cV L) (jV L)) ↦{fullShare} (iRowK L).view.read (Elt F) Ix := by
  rw [pointsTo_congr (idx_copied (F := F) L Ix f0)]

theorem stripe_numel_pos : ∀ L : grid3.Coords, 0 < (⟨2, (k3_off2 L).2⟩ : Shape).numel := by decide +kernel

theorem tFin_39 : (tFin 39).val + 1 = 40 := rfl

/-- All result chunks held again once the last trip's two copy-outs have landed. -/
theorem rows_close (fc0 fc1 : S10240x128.Idx → Elt F .f32) :
    iprop((bigSep Finset.univ fun t' : Fin k3_t1_loop.trips => rowSt (U := U) (F := F) d L 40 t')
      ∗ ((oChunkK L (tFin 39) 0).view.loc (V d (cV L) (jV L)) ↦[(oChunkK L (tFin 39) 0).view.set]{fullShare} fc0)
      ∗ ((oChunkK L (tFin 39) 1).view.loc (V d (cV L) (jV L)) ↦[(oChunkK L (tFin 39) 1).view.set]{fullShare} fc1))
    ⊢ bigSep Finset.univ fun tb : Fin k3_t1_loop.trips × Fin 2 => (iprop(∃ f, oLoc d ↦[oChunkSet L tb.1 tb.2]{fullShare} f) : sProp 𝕄) := by
  rw [bigSep_univ_prod]
  have hrest : Idealize.SL.BI.Entails
      (bigSep (Finset.univ.erase (tFin 39)) fun t' : Fin k3_t1_loop.trips => rowSt (U := U) (F := F) d L 40 t')
      (bigSep (Finset.univ.erase (tFin 39)) fun t' : Fin k3_t1_loop.trips => bigSep Finset.univ fun b : Fin 2 => (iprop(∃ f, oLoc d ↦[oChunkSet L (t', b).1 (t', b).2]{fullShare} f) : sProp 𝕄)) :=
    bigSep_mono fun t' ht' => by
      have hne : t'.val + 1 ≠ 40 := fun h => (Finset.mem_erase.mp ht').1 (Fin.ext (by show t'.val = min 39 39; omega))
      rw [bigSep_univ_two]
      unfold rowSt
      rw [if_neg hne]
      exact row_elim (F := F) (U := U) d L t'
  iintro ⟨Hrows, H0, H1⟩
  ihave Hr := (Entails.of_eq (SparseCore.bigSep_erase' (Φ := fun t' : Fin k3_t1_loop.trips => rowSt (U := U) (F := F) d L 40 t') (Finset.mem_univ (tFin 39)))) $$ Hrows
  icases Hr with ⟨-, Hrest⟩
  iapply (Entails.of_eq (SparseCore.bigSep_erase' (Φ := fun t' : Fin k3_t1_loop.trips => bigSep Finset.univ fun b : Fin 2 => (iprop(∃ f, oLoc d ↦[oChunkSet L (t', b).1 (t', b).2]{fullShare} f) : sProp 𝕄)) (Finset.mem_univ (tFin 39))).symm)
  isplitl [H0 H1]
  · rw [bigSep_univ_two]
    isplitl [H0]
    · iexists fc0; iapply (Entails.of_eq (pts_oChunk (F := F) (U := U) d L (tFin 39) 0 fc0)); iexact H0
    · iexists fc1; iapply (Entails.of_eq (pts_oChunk (F := F) (U := U) d L (tFin 39) 1 fc1)); iexact H1
  · iapply (SparseCore.ent hrest) $$ Hrest

end Body
end Cert.Proof.Tile1
end
-- ==== Proof.BodyInvVC1.lean ====
/-
  The gather-sum kernel's trips with what the buffers hold: the row scratch's slots hold the table rows their index chunks
  name, the result scratch's summed rows hold the tree sums, the chunks copied out hold their rows of the neighbour-sum array.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC1
import proofs.«205366_g3083786518796_cont_9to1_852_38_alg».proof.Proof.BodyLemmasC1
import proofs.«205366_g3083786518796_cont_9to1_852_38_alg».proof.Proof.BodyInvC1
import proofs.«205366_g3083786518796_cont_9to1_852_38_alg».proof.Proof.BodyJoinC1
import proofs.«205366_g3083786518796_cont_9to1_852_38_alg».proof.Proof.GSum
import Idealize.ShloMosaic.Lib.ValueIdx

noncomputable section

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

section Body
variable (d : Dev nD) (L : grid3.Coords)

/-! ## The forty trips' invariant, with what the buffers hold -/

open Idealize.ShloMosaic.ValueIdx (ix1 ix2 ix3)

section InvV

variable (Tx : S10000x128.Idx → Elt F .f32) (Ix : S32x10496.Idx → Elt F .i32)

/-- Entry `n` of the worker's row of the index table, as a row number of the table (reduced into range). -/
def idxAt (n : ℕ) : Fin 10000 :=
  ⟨((iRowK L).view.read (Elt F) Ix (ix1 ⟨n % 10496, Nat.mod_lt _ (by decide)⟩)).toNat % 10000, Nat.mod_lt _ (by decide)⟩

/-- Slot `b` of the row scratch holds the 128 table rows named by index chunk `n`. -/
def RowsOK (b : Fin 2) (n : ℕ) (fr : S2x128x128.Idx → Elt F .f32) : Prop :=
  ∀ (r j : Fin 128), fr (ix3 b r j) = Tx (ix2 (idxAt L Ix (128 * n + r.val)) j)

/-- The tree sum of the 32 table rows named by entries `32 m …` of the worker's index row, at lane `j`: row `m` of the
    worker's 320 result rows. -/
def rowSum [FloatOps F] (m : ℕ) (j : Fin 128) : Elt F .f32 :=
  Cert.Proof.KI.tree32 (F := F) fun kk : Fin 32 => Tx (ix2 (idxAt L Ix (32 * m + kk.val)) j)

/-- Rows `< r` of slot `b` of the result scratch hold the sums of result rows `4 n …`. -/
def SumsOK [FloatOps F] (b : Fin 2) (n : ℕ) (r : ℕ) (fob : S2x4x128.Idx → Elt F .f32) : Prop :=
  ∀ (r' : Fin 4) (j : Fin 128), r'.val < r → fob (ix3 b r' j) = rowSum L Tx Ix (4 * n + r'.val) j

/-- A result chunk holds its rows of the neighbour-sum array. -/
def ChunkOK [FloatOps F] (t : Fin k3_t1_loop.trips) (b : Fin 2) (f : S10240x128.Idx → Elt F .f32) : Prop :=
  ∀ x ∈ oChunkSet L t b, f x = Cert.Proof.KI.gsumF (F := F) Tx Ix x

/-- The two result chunks of trip `t'` when `t` trips are done: in flight (trip `t - 1`'s); copied out and holding their rows of
    the neighbour-sum array (earlier trips'); else held at some contents. -/
def rowStV [FloatOps F] (t : ℕ) (t' : Fin k3_t1_loop.trips) : sProp 𝕄 :=
  if t'.val + 1 = t then iprop(emp)
  else if t'.val < t then
    iprop((∃ f, ⌜ChunkOK L Tx Ix t' 0 f⌝ ∗ ((oChunkK L t' 0).view.loc (V d (cV L) (jV L)) ↦[(oChunkK L t' 0).view.set]{fullShare} f))
      ∗ (∃ f, ⌜ChunkOK L Tx Ix t' 1 f⌝ ∗ ((oChunkK L t' 1).view.loc (V d (cV L) (jV L)) ↦[(oChunkK L t' 1).view.set]{fullShare} f)))
  else iprop((∃ f, (oChunkK L t' 0).view.loc (V d (cV L) (jV L)) ↦[(oChunkK L t' 0).view.set]{fullShare} f)
    ∗ (∃ f, (oChunkK L t' 1).view.loc (V d (cV L) (jV L)) ↦[(oChunkK L t' 1).view.set]{fullShare} f))

/-- The trips' invariant with what the buffers hold: the row scratch's slot in flight will hold the table rows its index
    chunk names; a chunk in flight will hold its rows of the neighbour-sum array; the chunks copied out hold theirs. -/
def tripInvV [FloatOps F] (O : CellTallies nD τ sig (HIx 3)) (W : Waits sig (HIx 3)) (t : ℕ) (_ : PUnit) : sProp 𝕄 :=
  iprop(Transfers.MayWaits (V d (cV L) (jV L)) (default : HIx 3) O
    ∗ (if t = 0 then iprop(∃ fr0 fr1 : Buf (Elt F) ((V d (cV L) (jV L)).loc cc3_scratch1),
          ⌜RowsOK L Tx Ix 0 (2 * t) fr0 ∧ RowsOK L Tx Ix 1 (2 * t + 1) fr1⌝ ∗ gFl0 d L Tx Ix ixLitSet0 fr0 ∗ gFl1 d L Tx Ix ixLitSet1 fr1)
        else iprop(∃ fr0 fr1 : Buf (Elt F) ((V d (cV L) (jV L)).loc cc3_scratch1),
          ⌜RowsOK L Tx Ix 0 (2 * t) fr0 ∧ RowsOK L Tx Ix 1 (2 * t + 1) fr1⌝
          ∗ gFl0 d L Tx Ix (ixLoopSet0 (tFin (t - 1))) fr0 ∗ gFl1 d L Tx Ix (ixLoopSet1 (tFin (t - 1))) fr1))
    ∗ (∃ frr : Buf (Elt F) ((V d (cV L) (jV L)).loc cc3_scratch1),
        (rwV).view.loc (V d (cV L) (jV L)) ↦[(Finset.univ \ (rwK0).view.set) \ (rwK1).view.set]{fullShare} frr)
    ∗ ((shV).view.loc (V d (cV L) (jV L)) ↦[Finset.univ \ (shAllK).view.set]{(shTok (jV L)).left} Tx)
    ∗ ((shV).view.loc (V d (cV L) (jV L)) ↦[Finset.univ \ (shAllK).view.set]{(shTok (jV L)).right} Tx)
    ∗ (if t = 0 then iprop(∃ fob : Buf (Elt F) ((V d (cV L) (jV L)).loc cc3_scratch2), ((obV).view.loc (V d (cV L) (jV L)) ↦{fullShare} fob)
            ∗ semVal (V d (cV L) (jV L), SemLoc.dma o0sem) 0 ∗ semVal (V d (cV L) (jV L), SemLoc.dma o1sem) 0)
        else iprop(∃ (fob : Buf (Elt F) ((V d (cV L) (jV L)).loc cc3_scratch2)) (fc0 fc1 : S10240x128.Idx → Elt F .f32) (fob0 fob1 : Buf (Elt F) ((V d (cV L) (jV L)).loc cc3_scratch2)),
            ⌜ChunkOK L Tx Ix (tFin (t - 1)) 0 fc0 ∧ ChunkOK L Tx Ix (tFin (t - 1)) 1 fc1⌝
            ∗ oFl0 d L (tFin (t - 1)) fc0 fob0 ∗ oFl1 d L (tFin (t - 1)) fc1 fob1
            ∗ ((obV).view.loc (V d (cV L) (jV L)) ↦[(Finset.univ \ (obK0).view.set) \ (obK1).view.set]{fullShare} fob)))
    ∗ (bigSep Finset.univ fun t' : Fin k3_t1_loop.trips => rowStV d L Tx Ix t t')
    ∗ ∃ W', ⌜∀ p ∈ W', p ∈ W ∨ p.2 = none⌝ ∗ owes (V d (cV L) (jV L)) O W')

/-- The inner loops' invariants: the slot's rows already summed hold their sums. `S` is what of the result scratch is held. -/
def innerInv0 [FloatOps F] (S : Finset S2x4x128.Idx) (n : ℕ) (h : Buf (Elt F) ((V d (cV L) (jV L)).loc cc3_scratch1)) (r : ℕ) (_ : PUnit) : sProp 𝕄 :=
  iprop(∃ fob' : Buf (Elt F) ((V d (cV L) (jV L)).loc cc3_scratch2), ⌜SumsOK L Tx Ix 0 n r fob'⌝
    ∗ ((rwV).view.loc (V d (cV L) (jV L)) ↦[Finset.univ \ (rwK1).view.set]{fullShare} h)
    ∗ ((obV).view.loc (V d (cV L) (jV L)) ↦[S]{fullShare} fob'))
def innerInv1 [FloatOps F] (n : ℕ) (h : Buf (Elt F) ((V d (cV L) (jV L)).loc cc3_scratch1)) (r : ℕ) (_ : PUnit) : sProp 𝕄 :=
  iprop(∃ fob' : Buf (Elt F) ((V d (cV L) (jV L)).loc cc3_scratch2), ⌜SumsOK L Tx Ix 1 n r fob'⌝
    ∗ ((rwV).view.loc (V d (cV L) (jV L)) ↦[Finset.univ \ (rwK0).view.set]{fullShare} h)
    ∗ ((obV).view.loc (V d (cV L) (jV L)) ↦[Finset.univ \ (obK0).view.set]{fullShare} fob'))

end InvV

end Body
end Cert.Proof.Tile1
end
-- ==== Proof.BodyTripC1.lean ====
/-
  One trip of the gather-sum kernel's forty on a vector subcore, from the trips' invariant to itself one trip on: for each
  of the two slots, its gather waited for (and, past the first trip, its previous copy-out), the slot's four rows summed
  (a loop of four, each the tree sum of 32 rows, 16 lanes at a time), the sums copied out to the trip's chunk, the slot's
  next gather started.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC1
import proofs.«205366_g3083786518796_cont_9to1_852_38_alg».proof.Proof.BodyLemmasC1
import proofs.«205366_g3083786518796_cont_9to1_852_38_alg».proof.Proof.BodyInvC1
import proofs.«205366_g3083786518796_cont_9to1_852_38_alg».proof.Proof.BodyJoinC1

noncomputable section

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

section Body
variable (d : Dev nD) (L : grid3.Coords)

theorem rowSt_ne {t : ℕ} {t' : Fin k3_t1_loop.trips} (h : t'.val + 1 ≠ t) :
    (rowSt (U := U) (F := F) d L t t' : sProp 𝕄)
      = iprop((∃ f, (oChunkK L t' 0).view.loc (V d (cV L) (jV L)) ↦[(oChunkK L t' 0).view.set]{fullShare} f)
        ∗ (∃ f, (oChunkK L t' 1).view.loc (V d (cV L) (jV L)) ↦[(oChunkK L t' 1).view.set]{fullShare} f)) := by
  unfold rowSt; rw [if_neg h]
theorem rowSt_eq {t : ℕ} {t' : Fin k3_t1_loop.trips} (h : t'.val + 1 = t) : (rowSt (U := U) (F := F) d L t t' : sProp 𝕄) = iprop(emp) := by
  unfold rowSt; rw [if_pos h]

theorem cond1_zero {k : Fin k3_t1_loop.trips} (hk : k.val = 0) : ¬ k3_cond1 k = 1#1 := by
  have : k = ⟨0, by decide⟩ := Fin.ext hk
  subst this; decide
theorem cond2_zero {k : Fin k3_t1_loop.trips} (hk : k.val = 0) : ¬ k3_cond2 k = 1#1 := by
  have : k = ⟨0, by decide⟩ := Fin.ext hk
  subst this; decide
theorem cond1_pos : ∀ k : Fin k3_t1_loop.trips, k.val ≠ 0 → k3_cond1 k = 1#1 := by decide
theorem cond2_pos : ∀ k : Fin k3_t1_loop.trips, k.val ≠ 0 → k3_cond2 k = 1#1 := by decide

/-- The chunk rows after the first trip: its own two chunks are in flight, the others as before. -/
theorem rows_step0 (k : Fin k3_t1_loop.trips) (hk : k.val = 0) :
    (bigSep (Finset.univ.erase k) fun t' : Fin k3_t1_loop.trips => rowSt (U := U) (F := F) d L k.val t')
    ⊢ bigSep Finset.univ fun t' : Fin k3_t1_loop.trips => rowSt (U := U) (F := F) d L (k.val + 1) t' := by
  have hrest : Idealize.SL.BI.Entails
      (bigSep (Finset.univ.erase k) fun t' : Fin k3_t1_loop.trips => rowSt (U := U) (F := F) d L k.val t')
      (bigSep (Finset.univ.erase k) fun t' : Fin k3_t1_loop.trips => rowSt (U := U) (F := F) d L (k.val + 1) t') :=
    bigSep_mono fun t' ht' => by
      have hne : t' ≠ k := (Finset.mem_erase.mp ht').1
      have h1 : t'.val + 1 ≠ k.val := by omega
      have h2 : t'.val + 1 ≠ k.val + 1 := fun h => hne (Fin.ext (by omega))
      rw [rowSt_ne (F := F) (U := U) d L h1, rowSt_ne (F := F) (U := U) d L h2]
      exact BI.Entails.refl _
  iintro H
  iapply (Entails.of_eq (SparseCore.bigSep_erase' (Φ := fun t' : Fin k3_t1_loop.trips => rowSt (U := U) (F := F) d L (k.val + 1) t') (Finset.mem_univ k)).symm)
  isplitr
  · rw [rowSt_eq (F := F) (U := U) d L rfl]; iempintro
  · iapply (SparseCore.ent hrest) $$ H

/-- The chunk rows after a later trip: its own two chunks are in flight, the previous trip's two are back. -/
theorem rows_stepS (k : Fin k3_t1_loop.trips) (hk : k.val ≠ 0)
    (fc0 : Buf (Elt F) ((oChunkK L (tFin (k.val - 1)) 0).view.loc (V d (cV L) (jV L))))
    (fc1 : Buf (Elt F) ((oChunkK L (tFin (k.val - 1)) 1).view.loc (V d (cV L) (jV L)))) :
    iprop((bigSep (Finset.univ.erase k) fun t' : Fin k3_t1_loop.trips => rowSt (U := U) (F := F) d L k.val t')
      ∗ ((oChunkK L (tFin (k.val - 1)) 0).view.loc (V d (cV L) (jV L)) ↦[(oChunkK L (tFin (k.val - 1)) 0).view.set]{fullShare} fc0)
      ∗ ((oChunkK L (tFin (k.val - 1)) 1).view.loc (V d (cV L) (jV L)) ↦[(oChunkK L (tFin (k.val - 1)) 1).view.set]{fullShare} fc1))
    ⊢ bigSep Finset.univ fun t' : Fin k3_t1_loop.trips => rowSt (U := U) (F := F) d L (k.val + 1) t' := by
  have h40 := lt_of_lt_of_eq k.isLt k3_trips_eq
  have hkm : (tFin (k.val - 1)).val + 1 = k.val := by show min (k.val - 1) 39 + 1 = k.val; omega
  have hne : tFin (k.val - 1) ≠ k := fun h => by have := congrArg Fin.val h; omega
  have hmem : tFin (k.val - 1) ∈ Finset.univ.erase k := Finset.mem_erase.mpr ⟨hne, Finset.mem_univ _⟩
  have hrest : Idealize.SL.BI.Entails
      (bigSep ((Finset.univ.erase k).erase (tFin (k.val - 1))) fun t' : Fin k3_t1_loop.trips => rowSt (U := U) (F := F) d L k.val t')
      (bigSep ((Finset.univ.erase k).erase (tFin (k.val - 1))) fun t' : Fin k3_t1_loop.trips => rowSt (U := U) (F := F) d L (k.val + 1) t') :=
    bigSep_mono fun t' ht' => by
      have h1 : t' ≠ tFin (k.val - 1) := (Finset.mem_erase.mp ht').1
      have h2 : t' ≠ k := (Finset.mem_erase.mp (Finset.mem_erase.mp ht').2).1
      have e1 : t'.val + 1 ≠ k.val := fun h => h1 (Fin.ext (by omega))
      have e2 : t'.val + 1 ≠ k.val + 1 := fun h => h2 (Fin.ext (by omega))
      rw [rowSt_ne (F := F) (U := U) d L e1, rowSt_ne (F := F) (U := U) d L e2]
      exact BI.Entails.refl _
  iintro ⟨H, H0, H1⟩
  ihave Hs := (Entails.of_eq (SparseCore.bigSep_erase' (Φ := fun t' : Fin k3_t1_loop.trips => rowSt (U := U) (F := F) d L k.val t') hmem)) $$ H
  icases Hs with ⟨-, Hrest⟩
  iapply (Entails.of_eq (SparseCore.bigSep_erase' (Φ := fun t' : Fin k3_t1_loop.trips => rowSt (U := U) (F := F) d L (k.val + 1) t') (Finset.mem_univ k)).symm)
  isplitr
  · rw [rowSt_eq (F := F) (U := U) d L rfl]; iempintro
  iapply (Entails.of_eq (SparseCore.bigSep_erase' (Φ := fun t' : Fin k3_t1_loop.trips => rowSt (U := U) (F := F) d L (k.val + 1) t') hmem).symm)
  isplitl [H0 H1]
  · rw [rowSt_ne (F := F) (U := U) d L (show (tFin (k.val - 1)).val + 1 ≠ k.val + 1 by omega)]
    isplitl [H0]; · iexists fc0; iexact H0
    iexists fc1; iexact H1
  · iapply (SparseCore.ent hrest) $$ Hrest

set_option maxHeartbeats 8000000 in
/-- The first trip: no copy-out is pending. -/
theorem trip0 (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k3_t1_loop.trips) (hk : k.val = 0) (x : PUnit) :
    tripInv (U := U) d L Tx Ix O W k.val x
      ⊢ wp frame (wpE (defs₀ (F := F)) 𝒱₀ (V d (cV L) (jV L)) none) Set.univ
          (k3_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k x)
          fun y => tripInv (U := U) d L Tx Ix O W (k.val + 1) y := by
  have hc1 := cond1_zero hk
  have hc2 := cond2_zero hk
  have hrow : (k.val + 1 ≠ k.val) := Nat.succ_ne_self _
  unfold tripInv
  rw [if_pos hk, if_pos hk]
  unfold gFl0 gFl1
  iintro ⟨#Hmw, ⟨%fr0, %fr1, ⟨FG0, Hix0⟩, ⟨FG1, Hix1⟩⟩, ⟨%frr, Hrwr⟩, Hsh0, Hsh1, ⟨%fob, Hob, Hso0, Hso1⟩, Hrows, ⟨%W', %hW', HO⟩⟩
  ihave Hr := (Entails.of_eq (SparseCore.bigSep_erase' (Φ := fun t' : Fin k3_t1_loop.trips => rowSt (U := U) (F := F) d L k.val t') (Finset.mem_univ k))) $$ Hrows
  icases Hr with ⟨Hrow, Hrest⟩
  ihave Hrow' := (Entails.of_eq (rowSt_ne (F := F) (U := U) d L hrow)) $$ Hrow
  icases Hrow' with ⟨⟨%fc0, Hoc0⟩, ⟨%fc1, Hoc1⟩⟩
  unfold k3_t1_body
  -- slot 0: its gather waited for
  sl_exec
  -- slot 0 of the row scratch, back from its gather, joined to what is held of the scratch
  ihave Hj := (pts_join (F := F) (U := U) (sdiff_join_disj rw_slots_disjoint) fr0 frr) $$ [FG0_dst Hrwr]
  · isplitl [FG0_dst]; · iexact FG0_dst
    iexact Hrwr
  icases Hj with ⟨%g1, Hrw⟩
  rw [sdiff_join_left rw_slots_disjoint]
  -- the four sums of slot 0
  sl_for (fun (_ : Nat) (_ : PUnit) => (iprop(∃ fob' : Buf (Elt F) ((V d (cV L) (jV L)).loc cc3_scratch2),
      ((rwV).view.loc (V d (cV L) (jV L)) ↦[Finset.univ \ (rwK1).view.set]{fullShare} g1)
      ∗ ((obV).view.loc (V d (cV L) (jV L)) ↦{fullShare} fob')) : sProp 𝕄)) $$ [Hrw Hob]
  case region =>
    intro k2 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobA, Hrw, Hob⟩
  -- slot 0 copied out, its next gather started; slot 1's gather waited for
  sl_exec
  -- slot 1 of the row scratch joined
  ihave Hj := (pts_join (F := F) (U := U) (sdiff_join_disj rw_slots_disjoint.symm) fr1 _) $$ [FG1_dst Hrw]
  · isplitl [FG1_dst]; · iexact FG1_dst
    iexact Hrw
  icases Hj with ⟨%g2, Hrw⟩
  rw [sdiff_join_left rw_slots_disjoint.symm]
  -- the four sums of slot 1
  sl_for (fun (_ : Nat) (_ : PUnit) => (iprop(∃ fob' : Buf (Elt F) ((V d (cV L) (jV L)).loc cc3_scratch2),
      ((rwV).view.loc (V d (cV L) (jV L)) ↦[Finset.univ \ (rwK0).view.set]{fullShare} g2)
      ∗ ((obV).view.loc (V d (cV L) (jV L)) ↦[Finset.univ \ (obK0).view.set]{fullShare} fob')) : sProp 𝕄)) $$ [Hrw Hob]
  case region =>
    intro k3 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobB, Hrw, Hob⟩
  -- slot 1 copied out, its next gather started
  sl_exec
  sl_step
  -- the invariant, one trip on
  rw [if_neg (Nat.succ_ne_zero k.val), if_neg (Nat.succ_ne_zero k.val), Nat.add_sub_cancel, tFin_val]
  unfold oFl0 oFl1
  isplitr; · iexact Hmw
  isplitl [FG0 Hix0 FG1 Hix1]
  · iexists _; iexists _
    isplitl [FG0 Hix0]
    · isplitl [FG0]; · iexact FG0
      iexact Hix0
    · isplitl [FG1]; · iexact FG1
      iexact Hix1
  isplitl [Hrw]; · iexists _; iexact Hrw
  isplitl [Hsh0]; · iexact Hsh0
  isplitl [Hsh1]; · iexact Hsh1
  isplitl [Hso0 Hso1 Hob]
  · iexists _; iexists _; iexists _; iexists _; iexists _
    isplitl [Hso0]; · iexact Hso0
    isplitl [Hso1]; · iexact Hso1
    iexact Hob
  isplitl [Hrest]; · iapply (rows_step0 (F := F) (U := U) d L k hk); iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
/-- A later trip: the previous trip's two copy-outs are pending. -/
theorem tripS (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k3_t1_loop.trips) (hk : k.val ≠ 0) (x : PUnit) :
    tripInv (U := U) d L Tx Ix O W k.val x
      ⊢ wp frame (wpE (defs₀ (F := F)) 𝒱₀ (V d (cV L) (jV L)) none) Set.univ
          (k3_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k x)
          fun y => tripInv (U := U) d L Tx Ix O W (k.val + 1) y := by
  have hc1 := cond1_pos k hk
  have hc2 := cond2_pos k hk
  have hrow : (k.val + 1 ≠ k.val) := Nat.succ_ne_self _
  unfold tripInv
  rw [if_neg hk, if_neg hk]
  unfold gFl0 gFl1 oFl0 oFl1
  iintro ⟨#Hmw, ⟨%fr0, %fr1, ⟨FG0, Hix0⟩, ⟨FG1, Hix1⟩⟩, ⟨%frr, Hrwr⟩, Hsh0, Hsh1, ⟨%fob, %fc0p, %fc1p, %fob0, %fob1, FO0, FO1, Hobr⟩, Hrows, ⟨%W', %hW', HO⟩⟩
  ihave Hr := (Entails.of_eq (SparseCore.bigSep_erase' (Φ := fun t' : Fin k3_t1_loop.trips => rowSt (U := U) (F := F) d L k.val t') (Finset.mem_univ k))) $$ Hrows
  icases Hr with ⟨Hrow, Hrest⟩
  ihave Hrow' := (Entails.of_eq (rowSt_ne (F := F) (U := U) d L hrow)) $$ Hrow
  icases Hrow' with ⟨⟨%fc0, Hoc0⟩, ⟨%fc1, Hoc1⟩⟩
  unfold k3_t1_body
  -- slot 0: its gather waited for
  sl_exec
  -- slot 0 of the row scratch, back from its gather, joined to what is held of the scratch
  ihave Hj := (pts_join (F := F) (U := U) (sdiff_join_disj rw_slots_disjoint) fr0 frr) $$ [FG0_dst Hrwr]
  · isplitl [FG0_dst]; · iexact FG0_dst
    iexact Hrwr
  icases Hj with ⟨%g1, Hrw⟩
  rw [sdiff_join_left rw_slots_disjoint]
  -- slot 0 of the result scratch, back from its copy-out, joined to what is held of the scratch
  ihave Hjo := (pts_join (F := F) (U := U) (sdiff_join_disj ob_slots_disjoint) fob0 fob) $$ [FO0_src Hobr]
  · isplitl [FO0_src]; · iexact FO0_src
    iexact Hobr
  icases Hjo with ⟨%go1, Hob⟩
  rw [sdiff_join_left ob_slots_disjoint]
  -- the four sums of slot 0
  sl_for (fun (_ : Nat) (_ : PUnit) => (iprop(∃ fob' : Buf (Elt F) ((V d (cV L) (jV L)).loc cc3_scratch2),
      ((rwV).view.loc (V d (cV L) (jV L)) ↦[Finset.univ \ (rwK1).view.set]{fullShare} g1)
      ∗ ((obV).view.loc (V d (cV L) (jV L)) ↦[Finset.univ \ (obK1).view.set]{fullShare} fob')) : sProp 𝕄)) $$ [Hrw Hob]
  case region =>
    intro k2 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobA, Hrw, Hob⟩
  -- slot 0 copied out, its next gather started; slot 1's gather waited for
  sl_exec
  -- slot 1 of the row scratch joined
  ihave Hj := (pts_join (F := F) (U := U) (sdiff_join_disj rw_slots_disjoint.symm) fr1 _) $$ [FG1_dst Hrw]
  · isplitl [FG1_dst]; · iexact FG1_dst
    iexact Hrw
  icases Hj with ⟨%g2, Hrw⟩
  rw [sdiff_join_left rw_slots_disjoint.symm]
  -- slot 1 of the result scratch joined
  ihave Hjo := (pts_join (F := F) (U := U) (sdiff_join_disj ob_slots_disjoint.symm) fob1 _) $$ [FO1_src Hob]
  · isplitl [FO1_src]; · iexact FO1_src
    iexact Hob
  icases Hjo with ⟨%go2, Hob⟩
  rw [sdiff_join_left ob_slots_disjoint.symm]
  -- the four sums of slot 1
  sl_for (fun (_ : Nat) (_ : PUnit) => (iprop(∃ fob' : Buf (Elt F) ((V d (cV L) (jV L)).loc cc3_scratch2),
      ((rwV).view.loc (V d (cV L) (jV L)) ↦[Finset.univ \ (rwK0).view.set]{fullShare} g2)
      ∗ ((obV).view.loc (V d (cV L) (jV L)) ↦[Finset.univ \ (obK0).view.set]{fullShare} fob')) : sProp 𝕄)) $$ [Hrw Hob]
  case region =>
    intro k3 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobB, Hrw, Hob⟩
  -- slot 1 copied out, its next gather started
  sl_exec
  sl_step
  -- the invariant, one trip on
  rw [if_neg (Nat.succ_ne_zero k.val), if_neg (Nat.succ_ne_zero k.val), Nat.add_sub_cancel, tFin_val]
  isplitr; · iexact Hmw
  isplitl [FG0 Hix0 FG1 Hix1]
  · iexists _; iexists _
    isplitl [FG0 Hix0]
    · isplitl [FG0]; · iexact FG0
      iexact Hix0
    · isplitl [FG1]; · iexact FG1
      iexact Hix1
  isplitl [Hrw]; · iexists _; iexact Hrw
  isplitl [Hsh0]; · iexact Hsh0
  isplitl [Hsh1]; · iexact Hsh1
  isplitl [FO0 FO1 Hob]
  · iexists _; iexists _; iexists _; iexists _; iexists _
    isplitl [FO0]; · iexact FO0
    isplitl [FO1]; · iexact FO1
    iexact Hob
  isplitl [Hrest FO0_dst FO1_dst]
  · iapply (rows_stepS (F := F) (U := U) d L k hk fc0p fc1p)
    isplitl [Hrest]; · iexact Hrest
    isplitl [FO0_dst]; · iexact FO0_dst
    iexact FO1_dst
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One trip of the forty. -/
theorem trip_region (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k3_t1_loop.trips) (x : PUnit) :
    tripInv (U := U) d L Tx Ix O W k.val x
      ⊢ wp frame (wpE (defs₀ (F := F)) 𝒱₀ (V d (cV L) (jV L)) none) Set.univ
          (k3_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k x)
          fun y => tripInv (U := U) d L Tx Ix O W (k.val + 1) y := by
  by_cases hk : k.val = 0
  · exact trip0 (F := F) (U := U) d L Tx Ix hinR O W v2 k hk x
  · exact tripS (F := F) (U := U) d L Tx Ix hinR O W v2 k hk x

end Body
end Cert.Proof.Tile1
end
-- ==== Proof.BodyStepVC1.lean ====
/-
  Small steps for the valued trips: joining pieces while keeping a piece's contents, the slots' elements, the chunk rows'
  three states and their update from trip to trip.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC1
import proofs.«205366_g3083786518796_cont_9to1_852_38_alg».proof.Proof.BodyLemmasC1
import proofs.«205366_g3083786518796_cont_9to1_852_38_alg».proof.Proof.BodyInvC1
import proofs.«205366_g3083786518796_cont_9to1_852_38_alg».proof.Proof.BodyJoinC1
import proofs.«205366_g3083786518796_cont_9to1_852_38_alg».proof.Proof.GSum
import proofs.«205366_g3083786518796_cont_9to1_852_38_alg».proof.Proof.BodyInvVC1
import proofs.«205366_g3083786518796_cont_9to1_852_38_alg».proof.Proof.BodyTripC1
import Idealize.ShloMosaic.Lib.ValueIdx

noncomputable section

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

section Body
variable (d : Dev nD) (L : grid3.Coords)

open Idealize.ShloMosaic.ValueIdx (ix1 ix2 ix3)

/-- Two pieces joined, the join keeping the first piece's contents on its elements. -/
theorem pts_joinV {ℓ : Loc nD τ sig} {q : PosShare TreeShare} {A B : Finset (Idx ℓ)} (h : Disjoint A B) (f g : Buf (Elt F) ℓ) :
    iprop((ℓ ↦[A]{q} f) ∗ (ℓ ↦[B]{q} g)) ⊢ (iprop(∃ h : Buf (Elt F) ℓ, ⌜∀ i ∈ A, h i = f i⌝ ∗ (ℓ ↦[A ∪ B]{q} h)) : sProp 𝕄) := by
  classical
  have e1 : (ℓ ↦[A]{q} f : sProp 𝕄) = ℓ ↦[A]{q} (fun i => if i ∈ A then f i else g i) := pointsTo_congr fun i hi => by simp [hi]
  have e2 : (ℓ ↦[B]{q} g : sProp 𝕄) = ℓ ↦[B]{q} (fun i => if i ∈ A then f i else g i) := pointsTo_congr fun i hi => by
    have : i ∉ A := fun ha => (Finset.disjoint_left.mp h ha hi)
    simp [this]
  iintro ⟨HA, HB⟩
  iexists (fun i => if i ∈ A then f i else g i)
  isplitr
  · ipureintro; intro i hi; simp [hi]
  ihave HA' := (Entails.of_eq e1) $$ HA
  ihave HB' := (Entails.of_eq e2) $$ HB
  iapply (pointsTo_split_subset (S := A ∪ B) (I := A) Finset.subset_union_left).2
  isplitl [HA']; · iexact HA'
  rw [Finset.union_sdiff_cancel_left h]; iexact HB'

theorem mem_rwK0 (r j : Fin 128) : (ix3 (0 : Fin 2) r j : S2x128x128.Idx) ∈ (rwK0).view.set := by
  rw [set_rwK0, Rect.mem_set_unit]
  intro a
  match a with
  | 0 => exact ⟨Nat.le_refl _, by show (0 : ℕ) < 0 + 1; omega⟩
  | 1 => exact ⟨Nat.zero_le _, by simpa using r.isLt⟩
  | 2 => exact ⟨Nat.zero_le _, by simpa using j.isLt⟩
theorem mem_rwK1 (r j : Fin 128) : (ix3 (1 : Fin 2) r j : S2x128x128.Idx) ∈ (rwK1).view.set := by
  rw [set_rwK1, Rect.mem_set_unit]
  intro a
  match a with
  | 0 => exact ⟨Nat.le_refl _, by show (1 : ℕ) < 1 + 1; omega⟩
  | 1 => exact ⟨Nat.zero_le _, by simpa using r.isLt⟩
  | 2 => exact ⟨Nat.zero_le _, by simpa using j.isLt⟩

section V
variable (Tx : S10000x128.Idx → Elt F .f32) (Ix : S32x10496.Idx → Elt F .i32)

theorem RowsOK_of_eq0 {n : ℕ} {f h : S2x128x128.Idx → Elt F .f32} (hf : RowsOK L Tx Ix 0 n f) (he : ∀ i ∈ (rwK0).view.set, h i = f i) : RowsOK L Tx Ix 0 n h :=
  fun r j => (he _ (mem_rwK0 r j)).trans (hf r j)
theorem RowsOK_of_eq1 {n : ℕ} {f h : S2x128x128.Idx → Elt F .f32} (hf : RowsOK L Tx Ix 1 n f) (he : ∀ i ∈ (rwK1).view.set, h i = f i) : RowsOK L Tx Ix 1 n h :=
  fun r j => (he _ (mem_rwK1 r j)).trans (hf r j)
theorem SumsOK_zero (b : Fin 2) (n : ℕ) (fob : S2x4x128.Idx → Elt F .f32) : SumsOK L Tx Ix b n 0 fob := fun _ _ h => absurd h (Nat.not_lt_zero _)

theorem rowStV_eq {t : ℕ} {t' : Fin k3_t1_loop.trips} (h : t'.val + 1 = t) : (rowStV (U := U) (F := F) d L Tx Ix t t' : sProp 𝕄) = iprop(emp) := by
  unfold rowStV; rw [if_pos h]
theorem rowStV_done {t : ℕ} {t' : Fin k3_t1_loop.trips} (h : t'.val + 1 ≠ t) (h2 : t'.val < t) :
    (rowStV (U := U) (F := F) d L Tx Ix t t' : sProp 𝕄)
      = iprop((∃ f, ⌜ChunkOK L Tx Ix t' 0 f⌝ ∗ ((oChunkK L t' 0).view.loc (V d (cV L) (jV L)) ↦[(oChunkK L t' 0).view.set]{fullShare} f))
        ∗ (∃ f, ⌜ChunkOK L Tx Ix t' 1 f⌝ ∗ ((oChunkK L t' 1).view.loc (V d (cV L) (jV L)) ↦[(oChunkK L t' 1).view.set]{fullShare} f))) := by
  unfold rowStV; rw [if_neg h, if_pos h2]
theorem rowStV_todo {t : ℕ} {t' : Fin k3_t1_loop.trips} (h : t'.val + 1 ≠ t) (h2 : ¬ t'.val < t) :
    (rowStV (U := U) (F := F) d L Tx Ix t t' : sProp 𝕄)
      = iprop((∃ f, (oChunkK L t' 0).view.loc (V d (cV L) (jV L)) ↦[(oChunkK L t' 0).view.set]{fullShare} f)
        ∗ (∃ f, (oChunkK L t' 1).view.loc (V d (cV L) (jV L)) ↦[(oChunkK L t' 1).view.set]{fullShare} f)) := by
  unfold rowStV; rw [if_neg h, if_neg h2]

/-- The chunk rows after the first trip. -/
theorem rows_step0V (k : Fin k3_t1_loop.trips) (hk : k.val = 0) :
    (bigSep (Finset.univ.erase k) fun t' : Fin k3_t1_loop.trips => rowStV (U := U) (F := F) d L Tx Ix k.val t')
    ⊢ bigSep Finset.univ fun t' : Fin k3_t1_loop.trips => rowStV (U := U) (F := F) d L Tx Ix (k.val + 1) t' := by
  have hrest : Idealize.SL.BI.Entails
      (bigSep (Finset.univ.erase k) fun t' : Fin k3_t1_loop.trips => rowStV (U := U) (F := F) d L Tx Ix k.val t')
      (bigSep (Finset.univ.erase k) fun t' : Fin k3_t1_loop.trips => rowStV (U := U) (F := F) d L Tx Ix (k.val + 1) t') :=
    bigSep_mono fun t' ht' => by
      have hne : t' ≠ k := (Finset.mem_erase.mp ht').1
      have hv : t'.val ≠ k.val := fun h => hne (Fin.ext h)
      rw [rowStV_todo (F := F) (U := U) d L Tx Ix (show t'.val + 1 ≠ k.val by omega) (show ¬ t'.val < k.val by omega),
        rowStV_todo (F := F) (U := U) d L Tx Ix (show t'.val + 1 ≠ k.val + 1 by omega) (show ¬ t'.val < k.val + 1 by omega)]
      exact BI.Entails.refl _
  iintro H
  iapply (Entails.of_eq (SparseCore.bigSep_erase' (Φ := fun t' : Fin k3_t1_loop.trips => rowStV (U := U) (F := F) d L Tx Ix (k.val + 1) t') (Finset.mem_univ k)).symm)
  isplitr
  · rw [rowStV_eq (F := F) (U := U) d L Tx Ix rfl]; iempintro
  · iapply (SparseCore.ent hrest) $$ H

/-- The chunk rows after a later trip: the previous trip's two chunks are back, holding their sums. -/
theorem rows_stepSV (k : Fin k3_t1_loop.trips) (hk : k.val ≠ 0)
    (fc0 : Buf (Elt F) ((oChunkK L (tFin (k.val - 1)) 0).view.loc (V d (cV L) (jV L))))
    (fc1 : Buf (Elt F) ((oChunkK L (tFin (k.val - 1)) 1).view.loc (V d (cV L) (jV L))))
    (h0 : ChunkOK L Tx Ix (tFin (k.val - 1)) 0 fc0) (h1 : ChunkOK L Tx Ix (tFin (k.val - 1)) 1 fc1) :
    iprop((bigSep (Finset.univ.erase k) fun t' : Fin k3_t1_loop.trips => rowStV (U := U) (F := F) d L Tx Ix k.val t')
      ∗ ((oChunkK L (tFin (k.val - 1)) 0).view.loc (V d (cV L) (jV L)) ↦[(oChunkK L (tFin (k.val - 1)) 0).view.set]{fullShare} fc0)
      ∗ ((oChunkK L (tFin (k.val - 1)) 1).view.loc (V d (cV L) (jV L)) ↦[(oChunkK L (tFin (k.val - 1)) 1).view.set]{fullShare} fc1))
    ⊢ bigSep Finset.univ fun t' : Fin k3_t1_loop.trips => rowStV (U := U) (F := F) d L Tx Ix (k.val + 1) t' := by
  have h40 := lt_of_lt_of_eq k.isLt k3_trips_eq
  have hkm : (tFin (k.val - 1)).val + 1 = k.val := by show min (k.val - 1) 39 + 1 = k.val; omega
  have hne : tFin (k.val - 1) ≠ k := fun h => by have := congrArg Fin.val h; omega
  have hmem : tFin (k.val - 1) ∈ Finset.univ.erase k := Finset.mem_erase.mpr ⟨hne, Finset.mem_univ _⟩
  have hrest : Idealize.SL.BI.Entails
      (bigSep ((Finset.univ.erase k).erase (tFin (k.val - 1))) fun t' : Fin k3_t1_loop.trips => rowStV (U := U) (F := F) d L Tx Ix k.val t')
      (bigSep ((Finset.univ.erase k).erase (tFin (k.val - 1))) fun t' : Fin k3_t1_loop.trips => rowStV (U := U) (F := F) d L Tx Ix (k.val + 1) t') :=
    bigSep_mono fun t' ht' => by
      have h1' : t' ≠ tFin (k.val - 1) := (Finset.mem_erase.mp ht').1
      have h2' : t' ≠ k := (Finset.mem_erase.mp (Finset.mem_erase.mp ht').2).1
      have e1 : t'.val + 1 ≠ k.val := fun h => h1' (Fin.ext (by omega))
      have e2 : t'.val ≠ k.val := fun h => h2' (Fin.ext h)
      by_cases hlt : t'.val < k.val
      · rw [rowStV_done (F := F) (U := U) d L Tx Ix e1 hlt, rowStV_done (F := F) (U := U) d L Tx Ix (show t'.val + 1 ≠ k.val + 1 by omega) (show t'.val < k.val + 1 by omega)]
        exact BI.Entails.refl _
      · rw [rowStV_todo (F := F) (U := U) d L Tx Ix e1 hlt, rowStV_todo (F := F) (U := U) d L Tx Ix (show t'.val + 1 ≠ k.val + 1 by omega) (show ¬ t'.val < k.val + 1 by omega)]
        exact BI.Entails.refl _
  iintro ⟨H, H0, H1⟩
  ihave Hs := (Entails.of_eq (SparseCore.bigSep_erase' (Φ := fun t' : Fin k3_t1_loop.trips => rowStV (U := U) (F := F) d L Tx Ix k.val t') hmem)) $$ H
  icases Hs with ⟨-, Hrest⟩
  iapply (Entails.of_eq (SparseCore.bigSep_erase' (Φ := fun t' : Fin k3_t1_loop.trips => rowStV (U := U) (F := F) d L Tx Ix (k.val + 1) t') (Finset.mem_univ k)).symm)
  isplitr
  · rw [rowStV_eq (F := F) (U := U) d L Tx Ix rfl]; iempintro
  iapply (Entails.of_eq (SparseCore.bigSep_erase' (Φ := fun t' : Fin k3_t1_loop.trips => rowStV (U := U) (F := F) d L Tx Ix (k.val + 1) t') hmem).symm)
  isplitl [H0 H1]
  · rw [rowStV_done (F := F) (U := U) d L Tx Ix (show (tFin (k.val - 1)).val + 1 ≠ k.val + 1 by omega) (show (tFin (k.val - 1)).val < k.val + 1 by omega)]
    isplitl [H0]
    · iexists fc0; isplitr; · ipureintro; exact h0
      iexact H0
    · iexists fc1; isplitr; · ipureintro; exact h1
      iexact H1
  · iapply (SparseCore.ent hrest) $$ Hrest

end V

end Body
end Cert.Proof.Tile1
end
-- ==== Proof.ScTree3.lean ====
import proofs.«205366_g3083786518796_cont_9to1_852_38_alg».proof.Proof.ScTree

noncomputable section

/-!
# The second SparseCore kernel's summing payloads, read at a lane

For every payload of the kernel that adds vectors: `_lane` says the payload at lane `l` is the same pairwise sums of its
arguments' lanes.  For a store's payload (and for the last partial payload of lane group 7, which takes the sixteen
first-level sums): `_tree` says it is `tree32 w` once each argument's lane is known to be the sub-tree of `w` over the
positions that argument stands for — one load, or an earlier part's sum of 2, 4, … loads.
-/

namespace Cert.Proof.KI

open Cert.KernelIdeal Cert.KernelIdeal.Gen
open Idealize.ShloMosaic Idealize.ShloMosaic.ValueIdx

variable {F : FTy → Type} [FloatOps F]

theorem k3_pay1_lane (v114 : Vec F S1x1x16 .f32) (l : Fin 16) :
    k3_pay1 v114 (ix1 l) = v114 (ix3 (0 : Fin 1) (0 : Fin 1) l) := by
  unfold k3_pay1
  exact cast_16 v114 l

theorem k3_pay2_lane (v119 : Vec F S1x1x16 .f32) (l : Fin 16) :
    k3_pay2 v119 (ix1 l) = v119 (ix3 (0 : Fin 1) (0 : Fin 1) l) := by
  unfold k3_pay2
  exact cast_16 v119 l

theorem k3_pay3_lane (v124 : Vec F S1x1x16 .f32) (l : Fin 16) :
    k3_pay3 v124 (ix1 l) = v124 (ix3 (0 : Fin 1) (0 : Fin 1) l) := by
  unfold k3_pay3
  exact cast_16 v124 l

theorem k3_pay4_lane (v129 : Vec F S1x1x16 .f32) (l : Fin 16) :
    k3_pay4 v129 (ix1 l) = v129 (ix3 (0 : Fin 1) (0 : Fin 1) l) := by
  unfold k3_pay4
  exact cast_16 v129 l

theorem k3_pay5_lane (v134 : Vec F S1x1x16 .f32) (l : Fin 16) :
    k3_pay5 v134 (ix1 l) = v134 (ix3 (0 : Fin 1) (0 : Fin 1) l) := by
  unfold k3_pay5
  exact cast_16 v134 l

theorem k3_pay6_lane (v139 : Vec F S1x1x16 .f32) (l : Fin 16) :
    k3_pay6 v139 (ix1 l) = v139 (ix3 (0 : Fin 1) (0 : Fin 1) l) := by
  unfold k3_pay6
  exact cast_16 v139 l

theorem k3_pay7_lane (v144 : Vec F S1x1x16 .f32) (l : Fin 16) :
    k3_pay7 v144 (ix1 l) = v144 (ix3 (0 : Fin 1) (0 : Fin 1) l) := by
  unfold k3_pay7
  exact cast_16 v144 l

theorem k3_pay8_lane (v149 : Vec F S1x1x16 .f32) (l : Fin 16) :
    k3_pay8 v149 (ix1 l) = v149 (ix3 (0 : Fin 1) (0 : Fin 1) l) := by
  unfold k3_pay8
  exact cast_16 v149 l

theorem k3_pay9_lane (v154 : Vec F S1x1x16 .f32) (l : Fin 16) :
    k3_pay9 v154 (ix1 l) = v154 (ix3 (0 : Fin 1) (0 : Fin 1) l) := by
  unfold k3_pay9
  exact cast_16 v154 l

theorem k3_pay10_lane (v159 : Vec F S1x1x16 .f32) (l : Fin 16) :
    k3_pay10 v159 (ix1 l) = v159 (ix3 (0 : Fin 1) (0 : Fin 1) l) := by
  unfold k3_pay10
  exact cast_16 v159 l

theorem k3_pay11_lane (v164 : Vec F S1x1x16 .f32) (l : Fin 16) :
    k3_pay11 v164 (ix1 l) = v164 (ix3 (0 : Fin 1) (0 : Fin 1) l) := by
  unfold k3_pay11
  exact cast_16 v164 l

theorem k3_pay12_lane (v169 : Vec F S1x1x16 .f32) (l : Fin 16) :
    k3_pay12 v169 (ix1 l) = v169 (ix3 (0 : Fin 1) (0 : Fin 1) l) := by
  unfold k3_pay12
  exact cast_16 v169 l

theorem k3_pay13_lane (v174 : Vec F S1x1x16 .f32) (l : Fin 16) :
    k3_pay13 v174 (ix1 l) = v174 (ix3 (0 : Fin 1) (0 : Fin 1) l) := by
  unfold k3_pay13
  exact cast_16 v174 l

theorem k3_pay14_lane (v179 : Vec F S1x1x16 .f32) (l : Fin 16) :
    k3_pay14 v179 (ix1 l) = v179 (ix3 (0 : Fin 1) (0 : Fin 1) l) := by
  unfold k3_pay14
  exact cast_16 v179 l

theorem k3_pay15_lane (v184 : Vec F S1x1x16 .f32) (l : Fin 16) :
    k3_pay15 v184 (ix1 l) = v184 (ix3 (0 : Fin 1) (0 : Fin 1) l) := by
  unfold k3_pay15
  exact cast_16 v184 l

theorem k3_pay16_lane (v189 : Vec F S1x1x16 .f32) (l : Fin 16) :
    k3_pay16 v189 (ix1 l) = v189 (ix3 (0 : Fin 1) (0 : Fin 1) l) := by
  unfold k3_pay16
  exact cast_16 v189 l

theorem k3_pay17_lane (v194 : Vec F S1x1x16 .f32) (l : Fin 16) :
    k3_pay17 v194 (ix1 l) = v194 (ix3 (0 : Fin 1) (0 : Fin 1) l) := by
  unfold k3_pay17
  exact cast_16 v194 l

theorem k3_pay18_lane (v199 : Vec F S1x1x16 .f32) (l : Fin 16) :
    k3_pay18 v199 (ix1 l) = v199 (ix3 (0 : Fin 1) (0 : Fin 1) l) := by
  unfold k3_pay18
  exact cast_16 v199 l

theorem k3_pay19_lane (v204 : Vec F S1x1x16 .f32) (l : Fin 16) :
    k3_pay19 v204 (ix1 l) = v204 (ix3 (0 : Fin 1) (0 : Fin 1) l) := by
  unfold k3_pay19
  exact cast_16 v204 l

theorem k3_pay20_lane (v209 : Vec F S1x1x16 .f32) (l : Fin 16) :
    k3_pay20 v209 (ix1 l) = v209 (ix3 (0 : Fin 1) (0 : Fin 1) l) := by
  unfold k3_pay20
  exact cast_16 v209 l

theorem k3_pay21_lane (v214 : Vec F S1x1x16 .f32) (l : Fin 16) :
    k3_pay21 v214 (ix1 l) = v214 (ix3 (0 : Fin 1) (0 : Fin 1) l) := by
  unfold k3_pay21
  exact cast_16 v214 l

theorem k3_pay22_lane (v219 : Vec F S1x1x16 .f32) (l : Fin 16) :
    k3_pay22 v219 (ix1 l) = v219 (ix3 (0 : Fin 1) (0 : Fin 1) l) := by
  unfold k3_pay22
  exact cast_16 v219 l

theorem k3_pay23_lane (v224 : Vec F S1x1x16 .f32) (l : Fin 16) :
    k3_pay23 v224 (ix1 l) = v224 (ix3 (0 : Fin 1) (0 : Fin 1) l) := by
  unfold k3_pay23
  exact cast_16 v224 l

theorem k3_pay24_lane (v229 : Vec F S1x1x16 .f32) (l : Fin 16) :
    k3_pay24 v229 (ix1 l) = v229 (ix3 (0 : Fin 1) (0 : Fin 1) l) := by
  unfold k3_pay24
  exact cast_16 v229 l

theorem k3_pay25_lane (v234 : Vec F S1x1x16 .f32) (l : Fin 16) :
    k3_pay25 v234 (ix1 l) = v234 (ix3 (0 : Fin 1) (0 : Fin 1) l) := by
  unfold k3_pay25
  exact cast_16 v234 l

theorem k3_pay26_lane (v239 : Vec F S1x1x16 .f32) (l : Fin 16) :
    k3_pay26 v239 (ix1 l) = v239 (ix3 (0 : Fin 1) (0 : Fin 1) l) := by
  unfold k3_pay26
  exact cast_16 v239 l

theorem k3_pay27_lane (v244 : Vec F S1x1x16 .f32) (l : Fin 16) :
    k3_pay27 v244 (ix1 l) = v244 (ix3 (0 : Fin 1) (0 : Fin 1) l) := by
  unfold k3_pay27
  exact cast_16 v244 l

theorem k3_pay28_lane (v249 : Vec F S1x1x16 .f32) (l : Fin 16) :
    k3_pay28 v249 (ix1 l) = v249 (ix3 (0 : Fin 1) (0 : Fin 1) l) := by
  unfold k3_pay28
  exact cast_16 v249 l

theorem k3_pay29_lane (v254 : Vec F S1x1x16 .f32) (l : Fin 16) :
    k3_pay29 v254 (ix1 l) = v254 (ix3 (0 : Fin 1) (0 : Fin 1) l) := by
  unfold k3_pay29
  exact cast_16 v254 l

theorem k3_pay30_lane (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (l : Fin 16) :
    k3_pay30 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = FloatOps.addf (FloatOps.addf (FloatOps.addf (FloatOps.addf (FloatOps.addf (v115 (ix1 l)) (v120 (ix1 l))) (FloatOps.addf (v125 (ix1 l)) (v130 (ix1 l)))) (FloatOps.addf (FloatOps.addf (v135 (ix1 l)) (v140 (ix1 l))) (FloatOps.addf (v145 (ix1 l)) (v150 (ix1 l))))) (FloatOps.addf (FloatOps.addf (FloatOps.addf (v155 (ix1 l)) (v160 (ix1 l))) (FloatOps.addf (v165 (ix1 l)) (v170 (ix1 l)))) (FloatOps.addf (FloatOps.addf (v175 (ix1 l)) (v180 (ix1 l))) (FloatOps.addf (v185 (ix1 l)) (v190 (ix1 l)))))) (FloatOps.addf (FloatOps.addf (FloatOps.addf (FloatOps.addf (v195 (ix1 l)) (v200 (ix1 l))) (FloatOps.addf (v205 (ix1 l)) (v210 (ix1 l)))) (FloatOps.addf (FloatOps.addf (v215 (ix1 l)) (v220 (ix1 l))) (FloatOps.addf (v225 (ix1 l)) (v230 (ix1 l))))) (FloatOps.addf (FloatOps.addf (FloatOps.addf (v235 (ix1 l)) (v240 (ix1 l))) (FloatOps.addf (v245 (ix1 l)) (v250 (ix1 l)))) (FloatOps.addf (FloatOps.addf (v255 (ix1 l)) (v259 (ix3 (0 : Fin 1) (0 : Fin 1) l))) (FloatOps.addf (v264 (ix3 (0 : Fin 1) (0 : Fin 1) l)) (v269 (ix3 (0 : Fin 1) (0 : Fin 1) l)))))) := by
  unfold k3_pay30
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (cast_16 v259 l)) (congrArg₂ FloatOps.addf (cast_16 v264 l) (cast_16 v269 l)))))

theorem k3_pay30_tree (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (w : Fin 32 → F .f32) (l : Fin 16)
    (h_v115 : v115 (ix1 l) = w 0)
    (h_v120 : v120 (ix1 l) = w 1)
    (h_v125 : v125 (ix1 l) = w 2)
    (h_v130 : v130 (ix1 l) = w 3)
    (h_v135 : v135 (ix1 l) = w 4)
    (h_v140 : v140 (ix1 l) = w 5)
    (h_v145 : v145 (ix1 l) = w 6)
    (h_v150 : v150 (ix1 l) = w 7)
    (h_v155 : v155 (ix1 l) = w 8)
    (h_v160 : v160 (ix1 l) = w 9)
    (h_v165 : v165 (ix1 l) = w 10)
    (h_v170 : v170 (ix1 l) = w 11)
    (h_v175 : v175 (ix1 l) = w 12)
    (h_v180 : v180 (ix1 l) = w 13)
    (h_v185 : v185 (ix1 l) = w 14)
    (h_v190 : v190 (ix1 l) = w 15)
    (h_v195 : v195 (ix1 l) = w 16)
    (h_v200 : v200 (ix1 l) = w 17)
    (h_v205 : v205 (ix1 l) = w 18)
    (h_v210 : v210 (ix1 l) = w 19)
    (h_v215 : v215 (ix1 l) = w 20)
    (h_v220 : v220 (ix1 l) = w 21)
    (h_v225 : v225 (ix1 l) = w 22)
    (h_v230 : v230 (ix1 l) = w 23)
    (h_v235 : v235 (ix1 l) = w 24)
    (h_v240 : v240 (ix1 l) = w 25)
    (h_v245 : v245 (ix1 l) = w 26)
    (h_v250 : v250 (ix1 l) = w 27)
    (h_v255 : v255 (ix1 l) = w 28)
    (h_v259 : v259 (ix3 (0 : Fin 1) (0 : Fin 1) l) = w 29)
    (h_v264 : v264 (ix3 (0 : Fin 1) (0 : Fin 1) l) = w 30)
    (h_v269 : v269 (ix3 (0 : Fin 1) (0 : Fin 1) l) = w 31) :
    k3_pay30 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = tree32 w := by
  unfold k3_pay30
  refine (cast_116 _ l).trans ?_
  exact congrArg₂ FloatOps.addf (congrArg₂ FloatOps.addf (congrArg₂ FloatOps.addf (congrArg₂ FloatOps.addf (congrArg₂ FloatOps.addf (h_v115) (h_v120)) (congrArg₂ FloatOps.addf (h_v125) (h_v130))) (congrArg₂ FloatOps.addf (congrArg₂ FloatOps.addf (h_v135) (h_v140)) (congrArg₂ FloatOps.addf (h_v145) (h_v150)))) (congrArg₂ FloatOps.addf (congrArg₂ FloatOps.addf (congrArg₂ FloatOps.addf (h_v155) (h_v160)) (congrArg₂ FloatOps.addf (h_v165) (h_v170))) (congrArg₂ FloatOps.addf (congrArg₂ FloatOps.addf (h_v175) (h_v180)) (congrArg₂ FloatOps.addf (h_v185) (h_v190))))) (congrArg₂ FloatOps.addf (congrArg₂ FloatOps.addf (congrArg₂ FloatOps.addf (congrArg₂ FloatOps.addf (h_v195) (h_v200)) (congrArg₂ FloatOps.addf (h_v205) (h_v210))) (congrArg₂ FloatOps.addf (congrArg₂ FloatOps.addf (h_v215) (h_v220)) (congrArg₂ FloatOps.addf (h_v225) (h_v230)))) (congrArg₂ FloatOps.addf (congrArg₂ FloatOps.addf (congrArg₂ FloatOps.addf (h_v235) (h_v240)) (congrArg₂ FloatOps.addf (h_v245) (h_v250))) (congrArg₂ FloatOps.addf (congrArg₂ FloatOps.addf (h_v255) ((cast_16 v259 l).trans h_v259)) (congrArg₂ FloatOps.addf ((cast_16 v264 l).trans h_v264) ((cast_16 v269 l).trans h_v269)))))

theorem k3_pay31_lane (v310 : Vec F S1x1x16 .f32) (l : Fin 16) :
    k3_pay31 v310 (ix1 l) = v310 (ix3 (0 : Fin 1) (0 : Fin 1) l) := by
  unfold k3_pay31
  exact cast_16 v310 l

theorem k3_pay32_lane (v315 : Vec F S1x1x16 .f32) (l : Fin 16) :
    k3_pay32 v315 (ix1 l) = v315 (ix3 (0 : Fin 1) (0 : Fin 1) l) := by
  unfold k3_pay32
  exact cast_16 v315 l

theorem k3_pay33_lane (v320 : Vec F S1x1x16 .f32) (l : Fin 16) :
    k3_pay33 v320 (ix1 l) = v320 (ix3 (0 : Fin 1) (0 : Fin 1) l) := by
  unfold k3_pay33
  exact cast_16 v320 l

theorem k3_pay34_lane (v325 : Vec F S1x1x16 .f32) (l : Fin 16) :
    k3_pay34 v325 (ix1 l) = v325 (ix3 (0 : Fin 1) (0 : Fin 1) l) := by
  unfold k3_pay34
  exact cast_16 v325 l

theorem k3_pay35_lane (v330 : Vec F S1x1x16 .f32) (l : Fin 16) :
    k3_pay35 v330 (ix1 l) = v330 (ix3 (0 : Fin 1) (0 : Fin 1) l) := by
  unfold k3_pay35
  exact cast_16 v330 l

theorem k3_pay36_lane (v335 : Vec F S1x1x16 .f32) (l : Fin 16) :
    k3_pay36 v335 (ix1 l) = v335 (ix3 (0 : Fin 1) (0 : Fin 1) l) := by
  unfold k3_pay36
  exact cast_16 v335 l

theorem k3_pay37_lane (v340 : Vec F S1x1x16 .f32) (l : Fin 16) :
    k3_pay37 v340 (ix1 l) = v340 (ix3 (0 : Fin 1) (0 : Fin 1) l) := by
  unfold k3_pay37
  exact cast_16 v340 l

theorem k3_pay38_lane (v345 : Vec F S1x1x16 .f32) (l : Fin 16) :
    k3_pay38 v345 (ix1 l) = v345 (ix3 (0 : Fin 1) (0 : Fin 1) l) := by
  unfold k3_pay38
  exact cast_16 v345 l

theorem k3_pay39_lane (v350 : Vec F S1x1x16 .f32) (l : Fin 16) :
    k3_pay39 v350 (ix1 l) = v350 (ix3 (0 : Fin 1) (0 : Fin 1) l) := by
  unfold k3_pay39
  exact cast_16 v350 l

theorem k3_pay40_lane (v355 : Vec F S1x1x16 .f32) (l : Fin 16) :
    k3_pay40 v355 (ix1 l) = v355 (ix3 (0 : Fin 1) (0 : Fin 1) l) := by
  unfold k3_pay40
  exact cast_16 v355 l

theorem k3_pay41_lane (v360 : Vec F S1x1x16 .f32) (l : Fin 16) :
    k3_pay41 v360 (ix1 l) = v360 (ix3 (0 : Fin 1) (0 : Fin 1) l) := by
  unfold k3_pay41
  exact cast_16 v360 l

theorem k3_pay42_lane (v365 : Vec F S1x1x16 .f32) (l : Fin 16) :
    k3_pay42 v365 (ix1 l) = v365 (ix3 (0 : Fin 1) (0 : Fin 1) l) := by
  unfold k3_pay42
  exact cast_16 v365 l

theorem k3_pay43_lane (v370 : Vec F S1x1x16 .f32) (l : Fin 16) :
    k3_pay43 v370 (ix1 l) = v370 (ix3 (0 : Fin 1) (0 : Fin 1) l) := by
  unfold k3_pay43
  exact cast_16 v370 l

theorem k3_pay44_lane (v375 : Vec F S1x1x16 .f32) (l : Fin 16) :
    k3_pay44 v375 (ix1 l) = v375 (ix3 (0 : Fin 1) (0 : Fin 1) l) := by
  unfold k3_pay44
  exact cast_16 v375 l

theorem k3_pay45_lane (v380 : Vec F S1x1x16 .f32) (l : Fin 16) :
    k3_pay45 v380 (ix1 l) = v380 (ix3 (0 : Fin 1) (0 : Fin 1) l) := by
  unfold k3_pay45
  exact cast_16 v380 l

theorem k3_pay46_lane (v385 : Vec F S1x1x16 .f32) (l : Fin 16) :
    k3_pay46 v385 (ix1 l) = v385 (ix3 (0 : Fin 1) (0 : Fin 1) l) := by
  unfold k3_pay46
  exact cast_16 v385 l

theorem k3_pay47_lane (v390 : Vec F S1x1x16 .f32) (l : Fin 16) :
    k3_pay47 v390 (ix1 l) = v390 (ix3 (0 : Fin 1) (0 : Fin 1) l) := by
  unfold k3_pay47
  exact cast_16 v390 l

theorem k3_pay48_lane (v395 : Vec F S1x1x16 .f32) (l : Fin 16) :
    k3_pay48 v395 (ix1 l) = v395 (ix3 (0 : Fin 1) (0 : Fin 1) l) := by
  unfold k3_pay48
  exact cast_16 v395 l

theorem k3_pay49_lane (v400 : Vec F S1x1x16 .f32) (l : Fin 16) :
    k3_pay49 v400 (ix1 l) = v400 (ix3 (0 : Fin 1) (0 : Fin 1) l) := by
  unfold k3_pay49
  exact cast_16 v400 l

theorem k3_pay50_lane (v405 : Vec F S1x1x16 .f32) (l : Fin 16) :
    k3_pay50 v405 (ix1 l) = v405 (ix3 (0 : Fin 1) (0 : Fin 1) l) := by
  unfold k3_pay50
  exact cast_16 v405 l

theorem k3_pay51_lane (v410 : Vec F S1x1x16 .f32) (l : Fin 16) :
    k3_pay51 v410 (ix1 l) = v410 (ix3 (0 : Fin 1) (0 : Fin 1) l) := by
  unfold k3_pay51
  exact cast_16 v410 l

theorem k3_pay52_lane (v415 : Vec F S1x1x16 .f32) (l : Fin 16) :
    k3_pay52 v415 (ix1 l) = v415 (ix3 (0 : Fin 1) (0 : Fin 1) l) := by
  unfold k3_pay52
  exact cast_16 v415 l

theorem k3_pay53_lane (v420 : Vec F S1x1x16 .f32) (l : Fin 16) :
    k3_pay53 v420 (ix1 l) = v420 (ix3 (0 : Fin 1) (0 : Fin 1) l) := by
  unfold k3_pay53
  exact cast_16 v420 l

theorem k3_pay54_lane (v425 : Vec F S1x1x16 .f32) (l : Fin 16) :
    k3_pay54 v425 (ix1 l) = v425 (ix3 (0 : Fin 1) (0 : Fin 1) l) := by
  unfold k3_pay54
  exact cast_16 v425 l

theorem k3_pay55_lane (v430 : Vec F S1x1x16 .f32) (l : Fin 16) :
    k3_pay55 v430 (ix1 l) = v430 (ix3 (0 : Fin 1) (0 : Fin 1) l) := by
  unfold k3_pay55
  exact cast_16 v430 l

theorem k3_pay56_lane (v435 : Vec F S1x1x16 .f32) (l : Fin 16) :
    k3_pay56 v435 (ix1 l) = v435 (ix3 (0 : Fin 1) (0 : Fin 1) l) := by
  unfold k3_pay56
  exact cast_16 v435 l

theorem k3_pay57_lane (v440 : Vec F S1x1x16 .f32) (l : Fin 16) :
    k3_pay57 v440 (ix1 l) = v440 (ix3 (0 : Fin 1) (0 : Fin 1) l) := by
  unfold k3_pay57
  exact cast_16 v440 l

theorem k3_pay58_lane (v445 : Vec F S1x1x16 .f32) (l : Fin 16) :
    k3_pay58 v445 (ix1 l) = v445 (ix3 (0 : Fin 1) (0 : Fin 1) l) := by
  unfold k3_pay58
  exact cast_16 v445 l

theorem k3_pay59_lane (v450 : Vec F S1x1x16 .f32) (l : Fin 16) :
    k3_pay59 v450 (ix1 l) = v450 (ix3 (0 : Fin 1) (0 : Fin 1) l) := by
  unfold k3_pay59
  exact cast_16 v450 l

theorem k3_pay60_lane (v455 : Vec F S1x1x16 .f32) (l : Fin 16) :
    k3_pay60 v455 (ix1 l) = v455 (ix3 (0 : Fin 1) (0 : Fin 1) l) := by
  unfold k3_pay60
  exact cast_16 v455 l

theorem k3_pay61_lane (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (l : Fin 16) :
    k3_pay61 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = FloatOps.addf (FloatOps.addf (FloatOps.addf (FloatOps.addf (FloatOps.addf (v311 (ix1 l)) (v316 (ix1 l))) (FloatOps.addf (v321 (ix1 l)) (v326 (ix1 l)))) (FloatOps.addf (FloatOps.addf (v331 (ix1 l)) (v336 (ix1 l))) (FloatOps.addf (v341 (ix1 l)) (v346 (ix1 l))))) (FloatOps.addf (FloatOps.addf (FloatOps.addf (v351 (ix1 l)) (v356 (ix1 l))) (FloatOps.addf (v361 (ix1 l)) (v366 (ix1 l)))) (FloatOps.addf (FloatOps.addf (v371 (ix1 l)) (v376 (ix1 l))) (FloatOps.addf (v381 (ix1 l)) (v386 (ix1 l)))))) (FloatOps.addf (FloatOps.addf (FloatOps.addf (FloatOps.addf (v391 (ix1 l)) (v396 (ix1 l))) (FloatOps.addf (v401 (ix1 l)) (v406 (ix1 l)))) (FloatOps.addf (FloatOps.addf (v411 (ix1 l)) (v416 (ix1 l))) (FloatOps.addf (v421 (ix1 l)) (v426 (ix1 l))))) (FloatOps.addf (FloatOps.addf (FloatOps.addf (v431 (ix1 l)) (v436 (ix1 l))) (FloatOps.addf (v441 (ix1 l)) (v446 (ix1 l)))) (FloatOps.addf (FloatOps.addf (v451 (ix1 l)) (v456 (ix1 l))) (FloatOps.addf (v460 (ix3 (0 : Fin 1) (0 : Fin 1) l)) (v465 (ix3 (0 : Fin 1) (0 : Fin 1) l)))))) := by
  unfold k3_pay61
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v460 l) (cast_16 v465 l)))))

theorem k3_pay61_tree (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (w : Fin 32 → F .f32) (l : Fin 16)
    (h_v311 : v311 (ix1 l) = w 0)
    (h_v316 : v316 (ix1 l) = w 1)
    (h_v321 : v321 (ix1 l) = w 2)
    (h_v326 : v326 (ix1 l) = w 3)
    (h_v331 : v331 (ix1 l) = w 4)
    (h_v336 : v336 (ix1 l) = w 5)
    (h_v341 : v341 (ix1 l) = w 6)
    (h_v346 : v346 (ix1 l) = w 7)
    (h_v351 : v351 (ix1 l) = w 8)
    (h_v356 : v356 (ix1 l) = w 9)
    (h_v361 : v361 (ix1 l) = w 10)
    (h_v366 : v366 (ix1 l) = w 11)
    (h_v371 : v371 (ix1 l) = w 12)
    (h_v376 : v376 (ix1 l) = w 13)
    (h_v381 : v381 (ix1 l) = w 14)
    (h_v386 : v386 (ix1 l) = w 15)
    (h_v391 : v391 (ix1 l) = w 16)
    (h_v396 : v396 (ix1 l) = w 17)
    (h_v401 : v401 (ix1 l) = w 18)
    (h_v406 : v406 (ix1 l) = w 19)
    (h_v411 : v411 (ix1 l) = w 20)
    (h_v416 : v416 (ix1 l) = w 21)
    (h_v421 : v421 (ix1 l) = w 22)
    (h_v426 : v426 (ix1 l) = w 23)
    (h_v431 : v431 (ix1 l) = w 24)
    (h_v436 : v436 (ix1 l) = w 25)
    (h_v441 : v441 (ix1 l) = w 26)
    (h_v446 : v446 (ix1 l) = w 27)
    (h_v451 : v451 (ix1 l) = w 28)
    (h_v456 : v456 (ix1 l) = w 29)
    (h_v460 : v460 (ix3 (0 : Fin 1) (0 : Fin 1) l) = w 30)
    (h_v465 : v465 (ix3 (0 : Fin 1) (0 : Fin 1) l) = w 31) :
    k3_pay61 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = tree32 w := by
  unfold k3_pay61
  refine (cast_116 _ l).trans ?_
  exact congrArg₂ FloatOps.addf (congrArg₂ FloatOps.addf (congrArg₂ FloatOps.addf (congrArg₂ FloatOps.addf (congrArg₂ FloatOps.addf (h_v311) (h_v316)) (congrArg₂ FloatOps.addf (h_v321) (h_v326))) (congrArg₂ FloatOps.addf (congrArg₂ FloatOps.addf (h_v331) (h_v336)) (congrArg₂ FloatOps.addf (h_v341) (h_v346)))) (congrArg₂ FloatOps.addf (congrArg₂ FloatOps.addf (congrArg₂ FloatOps.addf (h_v351) (h_v356)) (congrArg₂ FloatOps.addf (h_v361) (h_v366))) (congrArg₂ FloatOps.addf (congrArg₂ FloatOps.addf (h_v371) (h_v376)) (congrArg₂ FloatOps.addf (h_v381) (h_v386))))) (congrArg₂ FloatOps.addf (congrArg₂ FloatOps.addf (congrArg₂ FloatOps.addf (congrArg₂ FloatOps.addf (h_v391) (h_v396)) (congrArg₂ FloatOps.addf (h_v401) (h_v406))) (congrArg₂ FloatOps.addf (congrArg₂ FloatOps.addf (h_v411) (h_v416)) (congrArg₂ FloatOps.addf (h_v421) (h_v426)))) (congrArg₂ FloatOps.addf (congrArg₂ FloatOps.addf (congrArg₂ FloatOps.addf (h_v431) (h_v436)) (congrArg₂ FloatOps.addf (h_v441) (h_v446))) (congrArg₂ FloatOps.addf (congrArg₂ FloatOps.addf (h_v451) (h_v456)) (congrArg₂ FloatOps.addf ((cast_16 v460 l).trans h_v460) ((cast_16 v465 l).trans h_v465)))))

theorem k3_pay62_lane (v506 : Vec F S1x1x16 .f32) (l : Fin 16) :
    k3_pay62 v506 (ix1 l) = v506 (ix3 (0 : Fin 1) (0 : Fin 1) l) := by
  unfold k3_pay62
  exact cast_16 v506 l

theorem k3_pay63_lane (v511 : Vec F S1x1x16 .f32) (l : Fin 16) :
    k3_pay63 v511 (ix1 l) = v511 (ix3 (0 : Fin 1) (0 : Fin 1) l) := by
  unfold k3_pay63
  exact cast_16 v511 l

theorem k3_pay64_lane (v516 : Vec F S1x1x16 .f32) (l : Fin 16) :
    k3_pay64 v516 (ix1 l) = v516 (ix3 (0 : Fin 1) (0 : Fin 1) l) := by
  unfold k3_pay64
  exact cast_16 v516 l

theorem k3_pay65_lane (v521 : Vec F S1x1x16 .f32) (l : Fin 16) :
    k3_pay65 v521 (ix1 l) = v521 (ix3 (0 : Fin 1) (0 : Fin 1) l) := by
  unfold k3_pay65
  exact cast_16 v521 l

theorem k3_pay66_lane (v526 : Vec F S1x1x16 .f32) (l : Fin 16) :
    k3_pay66 v526 (ix1 l) = v526 (ix3 (0 : Fin 1) (0 : Fin 1) l) := by
  unfold k3_pay66
  exact cast_16 v526 l

theorem k3_pay67_lane (v531 : Vec F S1x1x16 .f32) (l : Fin 16) :
    k3_pay67 v531 (ix1 l) = v531 (ix3 (0 : Fin 1) (0 : Fin 1) l) := by
  unfold k3_pay67
  exact cast_16 v531 l

theorem k3_pay68_lane (v536 : Vec F S1x1x16 .f32) (l : Fin 16) :
    k3_pay68 v536 (ix1 l) = v536 (ix3 (0 : Fin 1) (0 : Fin 1) l) := by
  unfold k3_pay68
  exact cast_16 v536 l

theorem k3_pay69_lane (v541 : Vec F S1x1x16 .f32) (l : Fin 16) :
    k3_pay69 v541 (ix1 l) = v541 (ix3 (0 : Fin 1) (0 : Fin 1) l) := by
  unfold k3_pay69
  exact cast_16 v541 l

theorem k3_pay70_lane (v546 : Vec F S1x1x16 .f32) (l : Fin 16) :
    k3_pay70 v546 (ix1 l) = v546 (ix3 (0 : Fin 1) (0 : Fin 1) l) := by
  unfold k3_pay70
  exact cast_16 v546 l

theorem k3_pay71_lane (v551 : Vec F S1x1x16 .f32) (l : Fin 16) :
    k3_pay71 v551 (ix1 l) = v551 (ix3 (0 : Fin 1) (0 : Fin 1) l) := by
  unfold k3_pay71
  exact cast_16 v551 l

theorem k3_pay72_lane (v556 : Vec F S1x1x16 .f32) (l : Fin 16) :
    k3_pay72 v556 (ix1 l) = v556 (ix3 (0 : Fin 1) (0 : Fin 1) l) := by
  unfold k3_pay72
  exact cast_16 v556 l

theorem k3_pay73_lane (v561 : Vec F S1x1x16 .f32) (l : Fin 16) :
    k3_pay73 v561 (ix1 l) = v561 (ix3 (0 : Fin 1) (0 : Fin 1) l) := by
  unfold k3_pay73
  exact cast_16 v561 l

theorem k3_pay74_lane (v566 : Vec F S1x1x16 .f32) (l : Fin 16) :
    k3_pay74 v566 (ix1 l) = v566 (ix3 (0 : Fin 1) (0 : Fin 1) l) := by
  unfold k3_pay74
  exact cast_16 v566 l

theorem k3_pay75_lane (v571 : Vec F S1x1x16 .f32) (l : Fin 16) :
    k3_pay75 v571 (ix1 l) = v571 (ix3 (0 : Fin 1) (0 : Fin 1) l) := by
  unfold k3_pay75
  exact cast_16 v571 l

theorem k3_pay76_lane (v576 : Vec F S1x1x16 .f32) (l : Fin 16) :
    k3_pay76 v576 (ix1 l) = v576 (ix3 (0 : Fin 1) (0 : Fin 1) l) := by
  unfold k3_pay76
  exact cast_16 v576 l

theorem k3_pay77_lane (v581 : Vec F S1x1x16 .f32) (l : Fin 16) :
    k3_pay77 v581 (ix1 l) = v581 (ix3 (0 : Fin 1) (0 : Fin 1) l) := by
  unfold k3_pay77
  exact cast_16 v581 l

theorem k3_pay78_lane (v586 : Vec F S1x1x16 .f32) (l : Fin 16) :
    k3_pay78 v586 (ix1 l) = v586 (ix3 (0 : Fin 1) (0 : Fin 1) l) := by
  unfold k3_pay78
  exact cast_16 v586 l

theorem k3_pay79_lane (v591 : Vec F S1x1x16 .f32) (l : Fin 16) :
    k3_pay79 v591 (ix1 l) = v591 (ix3 (0 : Fin 1) (0 : Fin 1) l) := by
  unfold k3_pay79
  exact cast_16 v591 l

theorem k3_pay80_lane (v596 : Vec F S1x1x16 .f32) (l : Fin 16) :
    k3_pay80 v596 (ix1 l) = v596 (ix3 (0 : Fin 1) (0 : Fin 1) l) := by
  unfold k3_pay80
  exact cast_16 v596 l

theorem k3_pay81_lane (v601 : Vec F S1x1x16 .f32) (l : Fin 16) :
    k3_pay81 v601 (ix1 l) = v601 (ix3 (0 : Fin 1) (0 : Fin 1) l) := by
  unfold k3_pay81
  exact cast_16 v601 l

theorem k3_pay82_lane (v606 : Vec F S1x1x16 .f32) (l : Fin 16) :
    k3_pay82 v606 (ix1 l) = v606 (ix3 (0 : Fin 1) (0 : Fin 1) l) := by
  unfold k3_pay82
  exact cast_16 v606 l

theorem k3_pay83_lane (v611 : Vec F S1x1x16 .f32) (l : Fin 16) :
    k3_pay83 v611 (ix1 l) = v611 (ix3 (0 : Fin 1) (0 : Fin 1) l) := by
  unfold k3_pay83
  exact cast_16 v611 l

theorem k3_pay84_lane (v616 : Vec F S1x1x16 .f32) (l : Fin 16) :
    k3_pay84 v616 (ix1 l) = v616 (ix3 (0 : Fin 1) (0 : Fin 1) l) := by
  unfold k3_pay84
  exact cast_16 v616 l

theorem k3_pay85_lane (v621 : Vec F S1x1x16 .f32) (l : Fin 16) :
    k3_pay85 v621 (ix1 l) = v621 (ix3 (0 : Fin 1) (0 : Fin 1) l) := by
  unfold k3_pay85
  exact cast_16 v621 l

theorem k3_pay86_lane (v626 : Vec F S1x1x16 .f32) (l : Fin 16) :
    k3_pay86 v626 (ix1 l) = v626 (ix3 (0 : Fin 1) (0 : Fin 1) l) := by
  unfold k3_pay86
  exact cast_16 v626 l

theorem k3_pay87_lane (v631 : Vec F S1x1x16 .f32) (l : Fin 16) :
    k3_pay87 v631 (ix1 l) = v631 (ix3 (0 : Fin 1) (0 : Fin 1) l) := by
  unfold k3_pay87
  exact cast_16 v631 l

theorem k3_pay88_lane (v636 : Vec F S1x1x16 .f32) (l : Fin 16) :
    k3_pay88 v636 (ix1 l) = v636 (ix3 (0 : Fin 1) (0 : Fin 1) l) := by
  unfold k3_pay88
  exact cast_16 v636 l

theorem k3_pay89_lane (v641 : Vec F S1x1x16 .f32) (l : Fin 16) :
    k3_pay89 v641 (ix1 l) = v641 (ix3 (0 : Fin 1) (0 : Fin 1) l) := by
  unfold k3_pay89
  exact cast_16 v641 l

theorem k3_pay90_lane (v646 : Vec F S1x1x16 .f32) (l : Fin 16) :
    k3_pay90 v646 (ix1 l) = v646 (ix3 (0 : Fin 1) (0 : Fin 1) l) := by
  unfold k3_pay90
  exact cast_16 v646 l

theorem k3_pay91_lane (v651 : Vec F S1x1x16 .f32) (l : Fin 16) :
    k3_pay91 v651 (ix1 l) = v651 (ix3 (0 : Fin 1) (0 : Fin 1) l) := by
  unfold k3_pay91
  exact cast_16 v651 l

theorem k3_pay92_lane (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (l : Fin 16) :
    k3_pay92 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = FloatOps.addf (FloatOps.addf (FloatOps.addf (FloatOps.addf (FloatOps.addf (v507 (ix1 l)) (v512 (ix1 l))) (FloatOps.addf (v517 (ix1 l)) (v522 (ix1 l)))) (FloatOps.addf (FloatOps.addf (v527 (ix1 l)) (v532 (ix1 l))) (FloatOps.addf (v537 (ix1 l)) (v542 (ix1 l))))) (FloatOps.addf (FloatOps.addf (FloatOps.addf (v547 (ix1 l)) (v552 (ix1 l))) (FloatOps.addf (v557 (ix1 l)) (v562 (ix1 l)))) (FloatOps.addf (FloatOps.addf (v567 (ix1 l)) (v572 (ix1 l))) (FloatOps.addf (v577 (ix1 l)) (v582 (ix1 l)))))) (FloatOps.addf (FloatOps.addf (FloatOps.addf (FloatOps.addf (v587 (ix1 l)) (v592 (ix1 l))) (FloatOps.addf (v597 (ix1 l)) (v602 (ix1 l)))) (FloatOps.addf (FloatOps.addf (v607 (ix1 l)) (v612 (ix1 l))) (FloatOps.addf (v617 (ix1 l)) (v622 (ix1 l))))) (FloatOps.addf (FloatOps.addf (FloatOps.addf (v627 (ix1 l)) (v632 (ix1 l))) (FloatOps.addf (v637 (ix1 l)) (v642 (ix1 l)))) (FloatOps.addf (FloatOps.addf (v647 (ix1 l)) (v652 (ix1 l))) (FloatOps.addf (v656 (ix3 (0 : Fin 1) (0 : Fin 1) l)) (v661 (ix3 (0 : Fin 1) (0 : Fin 1) l)))))) := by
  unfold k3_pay92
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v656 l) (cast_16 v661 l)))))

theorem k3_pay92_tree (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (w : Fin 32 → F .f32) (l : Fin 16)
    (h_v507 : v507 (ix1 l) = w 0)
    (h_v512 : v512 (ix1 l) = w 1)
    (h_v517 : v517 (ix1 l) = w 2)
    (h_v522 : v522 (ix1 l) = w 3)
    (h_v527 : v527 (ix1 l) = w 4)
    (h_v532 : v532 (ix1 l) = w 5)
    (h_v537 : v537 (ix1 l) = w 6)
    (h_v542 : v542 (ix1 l) = w 7)
    (h_v547 : v547 (ix1 l) = w 8)
    (h_v552 : v552 (ix1 l) = w 9)
    (h_v557 : v557 (ix1 l) = w 10)
    (h_v562 : v562 (ix1 l) = w 11)
    (h_v567 : v567 (ix1 l) = w 12)
    (h_v572 : v572 (ix1 l) = w 13)
    (h_v577 : v577 (ix1 l) = w 14)
    (h_v582 : v582 (ix1 l) = w 15)
    (h_v587 : v587 (ix1 l) = w 16)
    (h_v592 : v592 (ix1 l) = w 17)
    (h_v597 : v597 (ix1 l) = w 18)
    (h_v602 : v602 (ix1 l) = w 19)
    (h_v607 : v607 (ix1 l) = w 20)
    (h_v612 : v612 (ix1 l) = w 21)
    (h_v617 : v617 (ix1 l) = w 22)
    (h_v622 : v622 (ix1 l) = w 23)
    (h_v627 : v627 (ix1 l) = w 24)
    (h_v632 : v632 (ix1 l) = w 25)
    (h_v637 : v637 (ix1 l) = w 26)
    (h_v642 : v642 (ix1 l) = w 27)
    (h_v647 : v647 (ix1 l) = w 28)
    (h_v652 : v652 (ix1 l) = w 29)
    (h_v656 : v656 (ix3 (0 : Fin 1) (0 : Fin 1) l) = w 30)
    (h_v661 : v661 (ix3 (0 : Fin 1) (0 : Fin 1) l) = w 31) :
    k3_pay92 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = tree32 w := by
  unfold k3_pay92
  refine (cast_116 _ l).trans ?_
  exact congrArg₂ FloatOps.addf (congrArg₂ FloatOps.addf (congrArg₂ FloatOps.addf (congrArg₂ FloatOps.addf (congrArg₂ FloatOps.addf (h_v507) (h_v512)) (congrArg₂ FloatOps.addf (h_v517) (h_v522))) (congrArg₂ FloatOps.addf (congrArg₂ FloatOps.addf (h_v527) (h_v532)) (congrArg₂ FloatOps.addf (h_v537) (h_v542)))) (congrArg₂ FloatOps.addf (congrArg₂ FloatOps.addf (congrArg₂ FloatOps.addf (h_v547) (h_v552)) (congrArg₂ FloatOps.addf (h_v557) (h_v562))) (congrArg₂ FloatOps.addf (congrArg₂ FloatOps.addf (h_v567) (h_v572)) (congrArg₂ FloatOps.addf (h_v577) (h_v582))))) (congrArg₂ FloatOps.addf (congrArg₂ FloatOps.addf (congrArg₂ FloatOps.addf (congrArg₂ FloatOps.addf (h_v587) (h_v592)) (congrArg₂ FloatOps.addf (h_v597) (h_v602))) (congrArg₂ FloatOps.addf (congrArg₂ FloatOps.addf (h_v607) (h_v612)) (congrArg₂ FloatOps.addf (h_v617) (h_v622)))) (congrArg₂ FloatOps.addf (congrArg₂ FloatOps.addf (congrArg₂ FloatOps.addf (h_v627) (h_v632)) (congrArg₂ FloatOps.addf (h_v637) (h_v642))) (congrArg₂ FloatOps.addf (congrArg₂ FloatOps.addf (h_v647) (h_v652)) (congrArg₂ FloatOps.addf ((cast_16 v656 l).trans h_v656) ((cast_16 v661 l).trans h_v661)))))

theorem k3_pay93_lane (v702 : Vec F S1x1x16 .f32) (l : Fin 16) :
    k3_pay93 v702 (ix1 l) = v702 (ix3 (0 : Fin 1) (0 : Fin 1) l) := by
  unfold k3_pay93
  exact cast_16 v702 l

theorem k3_pay94_lane (v707 : Vec F S1x1x16 .f32) (l : Fin 16) :
    k3_pay94 v707 (ix1 l) = v707 (ix3 (0 : Fin 1) (0 : Fin 1) l) := by
  unfold k3_pay94
  exact cast_16 v707 l

theorem k3_pay95_lane (v712 : Vec F S1x1x16 .f32) (l : Fin 16) :
    k3_pay95 v712 (ix1 l) = v712 (ix3 (0 : Fin 1) (0 : Fin 1) l) := by
  unfold k3_pay95
  exact cast_16 v712 l

theorem k3_pay96_lane (v717 : Vec F S1x1x16 .f32) (l : Fin 16) :
    k3_pay96 v717 (ix1 l) = v717 (ix3 (0 : Fin 1) (0 : Fin 1) l) := by
  unfold k3_pay96
  exact cast_16 v717 l

theorem k3_pay97_lane (v722 : Vec F S1x1x16 .f32) (l : Fin 16) :
    k3_pay97 v722 (ix1 l) = v722 (ix3 (0 : Fin 1) (0 : Fin 1) l) := by
  unfold k3_pay97
  exact cast_16 v722 l

theorem k3_pay98_lane (v727 : Vec F S1x1x16 .f32) (l : Fin 16) :
    k3_pay98 v727 (ix1 l) = v727 (ix3 (0 : Fin 1) (0 : Fin 1) l) := by
  unfold k3_pay98
  exact cast_16 v727 l

theorem k3_pay99_lane (v732 : Vec F S1x1x16 .f32) (l : Fin 16) :
    k3_pay99 v732 (ix1 l) = v732 (ix3 (0 : Fin 1) (0 : Fin 1) l) := by
  unfold k3_pay99
  exact cast_16 v732 l

theorem k3_pay100_lane (v737 : Vec F S1x1x16 .f32) (l : Fin 16) :
    k3_pay100 v737 (ix1 l) = v737 (ix3 (0 : Fin 1) (0 : Fin 1) l) := by
  unfold k3_pay100
  exact cast_16 v737 l

theorem k3_pay101_lane (v742 : Vec F S1x1x16 .f32) (l : Fin 16) :
    k3_pay101 v742 (ix1 l) = v742 (ix3 (0 : Fin 1) (0 : Fin 1) l) := by
  unfold k3_pay101
  exact cast_16 v742 l

theorem k3_pay102_lane (v747 : Vec F S1x1x16 .f32) (l : Fin 16) :
    k3_pay102 v747 (ix1 l) = v747 (ix3 (0 : Fin 1) (0 : Fin 1) l) := by
  unfold k3_pay102
  exact cast_16 v747 l

theorem k3_pay103_lane (v752 : Vec F S1x1x16 .f32) (l : Fin 16) :
    k3_pay103 v752 (ix1 l) = v752 (ix3 (0 : Fin 1) (0 : Fin 1) l) := by
  unfold k3_pay103
  exact cast_16 v752 l

theorem k3_pay104_lane (v757 : Vec F S1x1x16 .f32) (l : Fin 16) :
    k3_pay104 v757 (ix1 l) = v757 (ix3 (0 : Fin 1) (0 : Fin 1) l) := by
  unfold k3_pay104
  exact cast_16 v757 l

theorem k3_pay105_lane (v762 : Vec F S1x1x16 .f32) (l : Fin 16) :
    k3_pay105 v762 (ix1 l) = v762 (ix3 (0 : Fin 1) (0 : Fin 1) l) := by
  unfold k3_pay105
  exact cast_16 v762 l

theorem k3_pay106_lane (v767 : Vec F S1x1x16 .f32) (l : Fin 16) :
    k3_pay106 v767 (ix1 l) = v767 (ix3 (0 : Fin 1) (0 : Fin 1) l) := by
  unfold k3_pay106
  exact cast_16 v767 l

theorem k3_pay107_lane (v772 : Vec F S1x1x16 .f32) (l : Fin 16) :
    k3_pay107 v772 (ix1 l) = v772 (ix3 (0 : Fin 1) (0 : Fin 1) l) := by
  unfold k3_pay107
  exact cast_16 v772 l

theorem k3_pay108_lane (v777 : Vec F S1x1x16 .f32) (l : Fin 16) :
    k3_pay108 v777 (ix1 l) = v777 (ix3 (0 : Fin 1) (0 : Fin 1) l) := by
  unfold k3_pay108
  exact cast_16 v777 l

theorem k3_pay109_lane (v782 : Vec F S1x1x16 .f32) (l : Fin 16) :
    k3_pay109 v782 (ix1 l) = v782 (ix3 (0 : Fin 1) (0 : Fin 1) l) := by
  unfold k3_pay109
  exact cast_16 v782 l

theorem k3_pay110_lane (v787 : Vec F S1x1x16 .f32) (l : Fin 16) :
    k3_pay110 v787 (ix1 l) = v787 (ix3 (0 : Fin 1) (0 : Fin 1) l) := by
  unfold k3_pay110
  exact cast_16 v787 l

theorem k3_pay111_lane (v792 : Vec F S1x1x16 .f32) (l : Fin 16) :
    k3_pay111 v792 (ix1 l) = v792 (ix3 (0 : Fin 1) (0 : Fin 1) l) := by
  unfold k3_pay111
  exact cast_16 v792 l

theorem k3_pay112_lane (v797 : Vec F S1x1x16 .f32) (l : Fin 16) :
    k3_pay112 v797 (ix1 l) = v797 (ix3 (0 : Fin 1) (0 : Fin 1) l) := by
  unfold k3_pay112
  exact cast_16 v797 l

theorem k3_pay113_lane (v802 : Vec F S1x1x16 .f32) (l : Fin 16) :
    k3_pay113 v802 (ix1 l) = v802 (ix3 (0 : Fin 1) (0 : Fin 1) l) := by
  unfold k3_pay113
  exact cast_16 v802 l

theorem k3_pay114_lane (v807 : Vec F S1x1x16 .f32) (l : Fin 16) :
    k3_pay114 v807 (ix1 l) = v807 (ix3 (0 : Fin 1) (0 : Fin 1) l) := by
  unfold k3_pay114
  exact cast_16 v807 l

theorem k3_pay115_lane (v812 : Vec F S1x1x16 .f32) (l : Fin 16) :
    k3_pay115 v812 (ix1 l) = v812 (ix3 (0 : Fin 1) (0 : Fin 1) l) := by
  unfold k3_pay115
  exact cast_16 v812 l

theorem k3_pay116_lane (v817 : Vec F S1x1x16 .f32) (l : Fin 16) :
    k3_pay116 v817 (ix1 l) = v817 (ix3 (0 : Fin 1) (0 : Fin 1) l) := by
  unfold k3_pay116
  exact cast_16 v817 l

theorem k3_pay117_lane (v822 : Vec F S1x1x16 .f32) (l : Fin 16) :
    k3_pay117 v822 (ix1 l) = v822 (ix3 (0 : Fin 1) (0 : Fin 1) l) := by
  unfold k3_pay117
  exact cast_16 v822 l

theorem k3_pay118_lane (v827 : Vec F S1x1x16 .f32) (l : Fin 16) :
    k3_pay118 v827 (ix1 l) = v827 (ix3 (0 : Fin 1) (0 : Fin 1) l) := by
  unfold k3_pay118
  exact cast_16 v827 l

theorem k3_pay119_lane (v832 : Vec F S1x1x16 .f32) (l : Fin 16) :
    k3_pay119 v832 (ix1 l) = v832 (ix3 (0 : Fin 1) (0 : Fin 1) l) := by
  unfold k3_pay119
  exact cast_16 v832 l

theorem k3_pay120_lane (v837 : Vec F S1x1x16 .f32) (l : Fin 16) :
    k3_pay120 v837 (ix1 l) = v837 (ix3 (0 : Fin 1) (0 : Fin 1) l) := by
  unfold k3_pay120
  exact cast_16 v837 l

theorem k3_pay121_lane (v842 : Vec F S1x1x16 .f32) (l : Fin 16) :
    k3_pay121 v842 (ix1 l) = v842 (ix3 (0 : Fin 1) (0 : Fin 1) l) := by
  unfold k3_pay121
  exact cast_16 v842 l

theorem k3_pay122_lane (v847 : Vec F S1x1x16 .f32) (l : Fin 16) :
    k3_pay122 v847 (ix1 l) = v847 (ix3 (0 : Fin 1) (0 : Fin 1) l) := by
  unfold k3_pay122
  exact cast_16 v847 l

theorem k3_pay123_lane (v852 : Vec F S1x1x16 .f32) (l : Fin 16) :
    k3_pay123 v852 (ix1 l) = v852 (ix3 (0 : Fin 1) (0 : Fin 1) l) := by
  unfold k3_pay123
  exact cast_16 v852 l

theorem k3_pay124_lane (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (l : Fin 16) :
    k3_pay124 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = FloatOps.addf (FloatOps.addf (FloatOps.addf (FloatOps.addf (FloatOps.addf (v703 (ix1 l)) (v708 (ix1 l))) (FloatOps.addf (v713 (ix1 l)) (v718 (ix1 l)))) (FloatOps.addf (FloatOps.addf (v723 (ix1 l)) (v728 (ix1 l))) (FloatOps.addf (v733 (ix1 l)) (v738 (ix1 l))))) (FloatOps.addf (FloatOps.addf (FloatOps.addf (v743 (ix1 l)) (v748 (ix1 l))) (FloatOps.addf (v753 (ix1 l)) (v758 (ix1 l)))) (FloatOps.addf (FloatOps.addf (v763 (ix1 l)) (v768 (ix1 l))) (FloatOps.addf (v773 (ix1 l)) (v778 (ix1 l)))))) (FloatOps.addf (FloatOps.addf (FloatOps.addf (FloatOps.addf (v783 (ix1 l)) (v788 (ix1 l))) (FloatOps.addf (v793 (ix1 l)) (v798 (ix1 l)))) (FloatOps.addf (FloatOps.addf (v803 (ix1 l)) (v808 (ix1 l))) (FloatOps.addf (v813 (ix1 l)) (v818 (ix1 l))))) (FloatOps.addf (FloatOps.addf (FloatOps.addf (v823 (ix1 l)) (v828 (ix1 l))) (FloatOps.addf (v833 (ix1 l)) (v838 (ix1 l)))) (FloatOps.addf (FloatOps.addf (v843 (ix1 l)) (v848 (ix1 l))) (FloatOps.addf (v853 (ix1 l)) (v857 (ix3 (0 : Fin 1) (0 : Fin 1) l)))))) := by
  unfold k3_pay124
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (cast_16 v857 l)))))

theorem k3_pay124_tree (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (w : Fin 32 → F .f32) (l : Fin 16)
    (h_v703 : v703 (ix1 l) = w 0)
    (h_v708 : v708 (ix1 l) = w 1)
    (h_v713 : v713 (ix1 l) = w 2)
    (h_v718 : v718 (ix1 l) = w 3)
    (h_v723 : v723 (ix1 l) = w 4)
    (h_v728 : v728 (ix1 l) = w 5)
    (h_v733 : v733 (ix1 l) = w 6)
    (h_v738 : v738 (ix1 l) = w 7)
    (h_v743 : v743 (ix1 l) = w 8)
    (h_v748 : v748 (ix1 l) = w 9)
    (h_v753 : v753 (ix1 l) = w 10)
    (h_v758 : v758 (ix1 l) = w 11)
    (h_v763 : v763 (ix1 l) = w 12)
    (h_v768 : v768 (ix1 l) = w 13)
    (h_v773 : v773 (ix1 l) = w 14)
    (h_v778 : v778 (ix1 l) = w 15)
    (h_v783 : v783 (ix1 l) = w 16)
    (h_v788 : v788 (ix1 l) = w 17)
    (h_v793 : v793 (ix1 l) = w 18)
    (h_v798 : v798 (ix1 l) = w 19)
    (h_v803 : v803 (ix1 l) = w 20)
    (h_v808 : v808 (ix1 l) = w 21)
    (h_v813 : v813 (ix1 l) = w 22)
    (h_v818 : v818 (ix1 l) = w 23)
    (h_v823 : v823 (ix1 l) = w 24)
    (h_v828 : v828 (ix1 l) = w 25)
    (h_v833 : v833 (ix1 l) = w 26)
    (h_v838 : v838 (ix1 l) = w 27)
    (h_v843 : v843 (ix1 l) = w 28)
    (h_v848 : v848 (ix1 l) = w 29)
    (h_v853 : v853 (ix1 l) = w 30)
    (h_v857 : v857 (ix3 (0 : Fin 1) (0 : Fin 1) l) = w 31) :
    k3_pay124 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = tree32 w := by
  unfold k3_pay124
  refine (cast_116 _ l).trans ?_
  exact congrArg₂ FloatOps.addf (congrArg₂ FloatOps.addf (congrArg₂ FloatOps.addf (congrArg₂ FloatOps.addf (congrArg₂ FloatOps.addf (h_v703) (h_v708)) (congrArg₂ FloatOps.addf (h_v713) (h_v718))) (congrArg₂ FloatOps.addf (congrArg₂ FloatOps.addf (h_v723) (h_v728)) (congrArg₂ FloatOps.addf (h_v733) (h_v738)))) (congrArg₂ FloatOps.addf (congrArg₂ FloatOps.addf (congrArg₂ FloatOps.addf (h_v743) (h_v748)) (congrArg₂ FloatOps.addf (h_v753) (h_v758))) (congrArg₂ FloatOps.addf (congrArg₂ FloatOps.addf (h_v763) (h_v768)) (congrArg₂ FloatOps.addf (h_v773) (h_v778))))) (congrArg₂ FloatOps.addf (congrArg₂ FloatOps.addf (congrArg₂ FloatOps.addf (congrArg₂ FloatOps.addf (h_v783) (h_v788)) (congrArg₂ FloatOps.addf (h_v793) (h_v798))) (congrArg₂ FloatOps.addf (congrArg₂ FloatOps.addf (h_v803) (h_v808)) (congrArg₂ FloatOps.addf (h_v813) (h_v818)))) (congrArg₂ FloatOps.addf (congrArg₂ FloatOps.addf (congrArg₂ FloatOps.addf (h_v823) (h_v828)) (congrArg₂ FloatOps.addf (h_v833) (h_v838))) (congrArg₂ FloatOps.addf (congrArg₂ FloatOps.addf (h_v843) (h_v848)) (congrArg₂ FloatOps.addf (h_v853) ((cast_16 v857 l).trans h_v857)))))

theorem k3_pay125_lane (v898 : Vec F S1x1x16 .f32) (l : Fin 16) :
    k3_pay125 v898 (ix1 l) = v898 (ix3 (0 : Fin 1) (0 : Fin 1) l) := by
  unfold k3_pay125
  exact cast_16 v898 l

theorem k3_pay126_lane (v903 : Vec F S1x1x16 .f32) (l : Fin 16) :
    k3_pay126 v903 (ix1 l) = v903 (ix3 (0 : Fin 1) (0 : Fin 1) l) := by
  unfold k3_pay126
  exact cast_16 v903 l

theorem k3_pay127_lane (v908 : Vec F S1x1x16 .f32) (l : Fin 16) :
    k3_pay127 v908 (ix1 l) = v908 (ix3 (0 : Fin 1) (0 : Fin 1) l) := by
  unfold k3_pay127
  exact cast_16 v908 l

theorem k3_pay128_lane (v913 : Vec F S1x1x16 .f32) (l : Fin 16) :
    k3_pay128 v913 (ix1 l) = v913 (ix3 (0 : Fin 1) (0 : Fin 1) l) := by
  unfold k3_pay128
  exact cast_16 v913 l

theorem k3_pay129_lane (v918 : Vec F S1x1x16 .f32) (l : Fin 16) :
    k3_pay129 v918 (ix1 l) = v918 (ix3 (0 : Fin 1) (0 : Fin 1) l) := by
  unfold k3_pay129
  exact cast_16 v918 l

theorem k3_pay130_lane (v923 : Vec F S1x1x16 .f32) (l : Fin 16) :
    k3_pay130 v923 (ix1 l) = v923 (ix3 (0 : Fin 1) (0 : Fin 1) l) := by
  unfold k3_pay130
  exact cast_16 v923 l

theorem k3_pay131_lane (v928 : Vec F S1x1x16 .f32) (l : Fin 16) :
    k3_pay131 v928 (ix1 l) = v928 (ix3 (0 : Fin 1) (0 : Fin 1) l) := by
  unfold k3_pay131
  exact cast_16 v928 l

theorem k3_pay132_lane (v933 : Vec F S1x1x16 .f32) (l : Fin 16) :
    k3_pay132 v933 (ix1 l) = v933 (ix3 (0 : Fin 1) (0 : Fin 1) l) := by
  unfold k3_pay132
  exact cast_16 v933 l

theorem k3_pay133_lane (v938 : Vec F S1x1x16 .f32) (l : Fin 16) :
    k3_pay133 v938 (ix1 l) = v938 (ix3 (0 : Fin 1) (0 : Fin 1) l) := by
  unfold k3_pay133
  exact cast_16 v938 l

theorem k3_pay134_lane (v943 : Vec F S1x1x16 .f32) (l : Fin 16) :
    k3_pay134 v943 (ix1 l) = v943 (ix3 (0 : Fin 1) (0 : Fin 1) l) := by
  unfold k3_pay134
  exact cast_16 v943 l

theorem k3_pay135_lane (v948 : Vec F S1x1x16 .f32) (l : Fin 16) :
    k3_pay135 v948 (ix1 l) = v948 (ix3 (0 : Fin 1) (0 : Fin 1) l) := by
  unfold k3_pay135
  exact cast_16 v948 l

theorem k3_pay136_lane (v953 : Vec F S1x1x16 .f32) (l : Fin 16) :
    k3_pay136 v953 (ix1 l) = v953 (ix3 (0 : Fin 1) (0 : Fin 1) l) := by
  unfold k3_pay136
  exact cast_16 v953 l

theorem k3_pay137_lane (v958 : Vec F S1x1x16 .f32) (l : Fin 16) :
    k3_pay137 v958 (ix1 l) = v958 (ix3 (0 : Fin 1) (0 : Fin 1) l) := by
  unfold k3_pay137
  exact cast_16 v958 l

theorem k3_pay138_lane (v963 : Vec F S1x1x16 .f32) (l : Fin 16) :
    k3_pay138 v963 (ix1 l) = v963 (ix3 (0 : Fin 1) (0 : Fin 1) l) := by
  unfold k3_pay138
  exact cast_16 v963 l

theorem k3_pay139_lane (v968 : Vec F S1x1x16 .f32) (l : Fin 16) :
    k3_pay139 v968 (ix1 l) = v968 (ix3 (0 : Fin 1) (0 : Fin 1) l) := by
  unfold k3_pay139
  exact cast_16 v968 l

theorem k3_pay140_lane (v973 : Vec F S1x1x16 .f32) (l : Fin 16) :
    k3_pay140 v973 (ix1 l) = v973 (ix3 (0 : Fin 1) (0 : Fin 1) l) := by
  unfold k3_pay140
  exact cast_16 v973 l

theorem k3_pay141_lane (v978 : Vec F S1x1x16 .f32) (l : Fin 16) :
    k3_pay141 v978 (ix1 l) = v978 (ix3 (0 : Fin 1) (0 : Fin 1) l) := by
  unfold k3_pay141
  exact cast_16 v978 l

theorem k3_pay142_lane (v983 : Vec F S1x1x16 .f32) (l : Fin 16) :
    k3_pay142 v983 (ix1 l) = v983 (ix3 (0 : Fin 1) (0 : Fin 1) l) := by
  unfold k3_pay142
  exact cast_16 v983 l

theorem k3_pay143_lane (v988 : Vec F S1x1x16 .f32) (l : Fin 16) :
    k3_pay143 v988 (ix1 l) = v988 (ix3 (0 : Fin 1) (0 : Fin 1) l) := by
  unfold k3_pay143
  exact cast_16 v988 l

theorem k3_pay144_lane (v993 : Vec F S1x1x16 .f32) (l : Fin 16) :
    k3_pay144 v993 (ix1 l) = v993 (ix3 (0 : Fin 1) (0 : Fin 1) l) := by
  unfold k3_pay144
  exact cast_16 v993 l

theorem k3_pay145_lane (v998 : Vec F S1x1x16 .f32) (l : Fin 16) :
    k3_pay145 v998 (ix1 l) = v998 (ix3 (0 : Fin 1) (0 : Fin 1) l) := by
  unfold k3_pay145
  exact cast_16 v998 l

theorem k3_pay146_lane (v1003 : Vec F S1x1x16 .f32) (l : Fin 16) :
    k3_pay146 v1003 (ix1 l) = v1003 (ix3 (0 : Fin 1) (0 : Fin 1) l) := by
  unfold k3_pay146
  exact cast_16 v1003 l

theorem k3_pay147_lane (v1008 : Vec F S1x1x16 .f32) (l : Fin 16) :
    k3_pay147 v1008 (ix1 l) = v1008 (ix3 (0 : Fin 1) (0 : Fin 1) l) := by
  unfold k3_pay147
  exact cast_16 v1008 l

theorem k3_pay148_lane (v1013 : Vec F S1x1x16 .f32) (l : Fin 16) :
    k3_pay148 v1013 (ix1 l) = v1013 (ix3 (0 : Fin 1) (0 : Fin 1) l) := by
  unfold k3_pay148
  exact cast_16 v1013 l

theorem k3_pay149_lane (v1018 : Vec F S1x1x16 .f32) (l : Fin 16) :
    k3_pay149 v1018 (ix1 l) = v1018 (ix3 (0 : Fin 1) (0 : Fin 1) l) := by
  unfold k3_pay149
  exact cast_16 v1018 l

theorem k3_pay150_lane (v1023 : Vec F S1x1x16 .f32) (l : Fin 16) :
    k3_pay150 v1023 (ix1 l) = v1023 (ix3 (0 : Fin 1) (0 : Fin 1) l) := by
  unfold k3_pay150
  exact cast_16 v1023 l

theorem k3_pay151_lane (v1028 : Vec F S1x1x16 .f32) (l : Fin 16) :
    k3_pay151 v1028 (ix1 l) = v1028 (ix3 (0 : Fin 1) (0 : Fin 1) l) := by
  unfold k3_pay151
  exact cast_16 v1028 l

theorem k3_pay152_lane (v1033 : Vec F S1x1x16 .f32) (l : Fin 16) :
    k3_pay152 v1033 (ix1 l) = v1033 (ix3 (0 : Fin 1) (0 : Fin 1) l) := by
  unfold k3_pay152
  exact cast_16 v1033 l

theorem k3_pay153_lane (v1038 : Vec F S1x1x16 .f32) (l : Fin 16) :
    k3_pay153 v1038 (ix1 l) = v1038 (ix3 (0 : Fin 1) (0 : Fin 1) l) := by
  unfold k3_pay153
  exact cast_16 v1038 l

theorem k3_pay154_lane (v1043 : Vec F S1x1x16 .f32) (l : Fin 16) :
    k3_pay154 v1043 (ix1 l) = v1043 (ix3 (0 : Fin 1) (0 : Fin 1) l) := by
  unfold k3_pay154
  exact cast_16 v1043 l

theorem k3_pay155_lane (v1048 : Vec F S1x1x16 .f32) (l : Fin 16) :
    k3_pay155 v1048 (ix1 l) = v1048 (ix3 (0 : Fin 1) (0 : Fin 1) l) := by
  unfold k3_pay155
  exact cast_16 v1048 l

theorem k3_pay156_lane (v1053 : Vec F S1x1x16 .f32) (l : Fin 16) :
    k3_pay156 v1053 (ix1 l) = v1053 (ix3 (0 : Fin 1) (0 : Fin 1) l) := by
  unfold k3_pay156
  exact cast_16 v1053 l

theorem k3_pay157_lane (v899 : FVec F S16 .f32) (v904 : FVec F S16 .f32) (l : Fin 16) :
    k3_pay157 v899 v904 (ix1 l) = FloatOps.addf (v899 (ix1 l)) (v904 (ix1 l)) := by
  unfold k3_pay157
  exact congrArg₂ FloatOps.addf (rfl) (rfl)

theorem k3_pay158_lane (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (l : Fin 16) :
    k3_pay158 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = FloatOps.addf (FloatOps.addf (FloatOps.addf (FloatOps.addf (v1055 (ix1 l)) (FloatOps.addf (v909 (ix1 l)) (v914 (ix1 l)))) (FloatOps.addf (FloatOps.addf (v919 (ix1 l)) (v924 (ix1 l))) (FloatOps.addf (v929 (ix1 l)) (v934 (ix1 l))))) (FloatOps.addf (FloatOps.addf (FloatOps.addf (v939 (ix1 l)) (v944 (ix1 l))) (FloatOps.addf (v949 (ix1 l)) (v954 (ix1 l)))) (FloatOps.addf (FloatOps.addf (v959 (ix1 l)) (v964 (ix1 l))) (FloatOps.addf (v969 (ix1 l)) (v974 (ix1 l)))))) (FloatOps.addf (FloatOps.addf (FloatOps.addf (FloatOps.addf (v979 (ix1 l)) (v984 (ix1 l))) (FloatOps.addf (v989 (ix1 l)) (v994 (ix1 l)))) (FloatOps.addf (FloatOps.addf (v999 (ix1 l)) (v1004 (ix1 l))) (FloatOps.addf (v1009 (ix1 l)) (v1014 (ix1 l))))) (FloatOps.addf (FloatOps.addf (FloatOps.addf (v1019 (ix1 l)) (v1024 (ix1 l))) (FloatOps.addf (v1029 (ix1 l)) (v1034 (ix1 l)))) (FloatOps.addf (FloatOps.addf (v1039 (ix1 l)) (v1044 (ix1 l))) (FloatOps.addf (v1049 (ix1 l)) (v1054 (ix1 l)))))) := by
  unfold k3_pay158
  refine (cast_116 _ l).trans ?_
  exact congrArg₂ FloatOps.addf (congrArg₂ FloatOps.addf (congrArg₂ FloatOps.addf (congrArg₂ FloatOps.addf (rfl) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k3_pay158_tree (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (w : Fin 32 → F .f32) (l : Fin 16)
    (h_v1055 : v1055 (ix1 l) = FloatOps.addf (w 0) (w 1))
    (h_v909 : v909 (ix1 l) = w 2)
    (h_v914 : v914 (ix1 l) = w 3)
    (h_v919 : v919 (ix1 l) = w 4)
    (h_v924 : v924 (ix1 l) = w 5)
    (h_v929 : v929 (ix1 l) = w 6)
    (h_v934 : v934 (ix1 l) = w 7)
    (h_v939 : v939 (ix1 l) = w 8)
    (h_v944 : v944 (ix1 l) = w 9)
    (h_v949 : v949 (ix1 l) = w 10)
    (h_v954 : v954 (ix1 l) = w 11)
    (h_v959 : v959 (ix1 l) = w 12)
    (h_v964 : v964 (ix1 l) = w 13)
    (h_v969 : v969 (ix1 l) = w 14)
    (h_v974 : v974 (ix1 l) = w 15)
    (h_v979 : v979 (ix1 l) = w 16)
    (h_v984 : v984 (ix1 l) = w 17)
    (h_v989 : v989 (ix1 l) = w 18)
    (h_v994 : v994 (ix1 l) = w 19)
    (h_v999 : v999 (ix1 l) = w 20)
    (h_v1004 : v1004 (ix1 l) = w 21)
    (h_v1009 : v1009 (ix1 l) = w 22)
    (h_v1014 : v1014 (ix1 l) = w 23)
    (h_v1019 : v1019 (ix1 l) = w 24)
    (h_v1024 : v1024 (ix1 l) = w 25)
    (h_v1029 : v1029 (ix1 l) = w 26)
    (h_v1034 : v1034 (ix1 l) = w 27)
    (h_v1039 : v1039 (ix1 l) = w 28)
    (h_v1044 : v1044 (ix1 l) = w 29)
    (h_v1049 : v1049 (ix1 l) = w 30)
    (h_v1054 : v1054 (ix1 l) = w 31) :
    k3_pay158 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = tree32 w := by
  unfold k3_pay158
  refine (cast_116 _ l).trans ?_
  exact congrArg₂ FloatOps.addf (congrArg₂ FloatOps.addf (congrArg₂ FloatOps.addf (congrArg₂ FloatOps.addf (h_v1055) (congrArg₂ FloatOps.addf (h_v909) (h_v914))) (congrArg₂ FloatOps.addf (congrArg₂ FloatOps.addf (h_v919) (h_v924)) (congrArg₂ FloatOps.addf (h_v929) (h_v934)))) (congrArg₂ FloatOps.addf (congrArg₂ FloatOps.addf (congrArg₂ FloatOps.addf (h_v939) (h_v944)) (congrArg₂ FloatOps.addf (h_v949) (h_v954))) (congrArg₂ FloatOps.addf (congrArg₂ FloatOps.addf (h_v959) (h_v964)) (congrArg₂ FloatOps.addf (h_v969) (h_v974))))) (congrArg₂ FloatOps.addf (congrArg₂ FloatOps.addf (congrArg₂ FloatOps.addf (congrArg₂ FloatOps.addf (h_v979) (h_v984)) (congrArg₂ FloatOps.addf (h_v989) (h_v994))) (congrArg₂ FloatOps.addf (congrArg₂ FloatOps.addf (h_v999) (h_v1004)) (congrArg₂ FloatOps.addf (h_v1009) (h_v1014)))) (congrArg₂ FloatOps.addf (congrArg₂ FloatOps.addf (congrArg₂ FloatOps.addf (h_v1019) (h_v1024)) (congrArg₂ FloatOps.addf (h_v1029) (h_v1034))) (congrArg₂ FloatOps.addf (congrArg₂ FloatOps.addf (h_v1039) (h_v1044)) (congrArg₂ FloatOps.addf (h_v1049) (h_v1054)))))

theorem k3_pay159_lane (v1094 : Vec F S1x1x16 .f32) (l : Fin 16) :
    k3_pay159 v1094 (ix1 l) = v1094 (ix3 (0 : Fin 1) (0 : Fin 1) l) := by
  unfold k3_pay159
  exact cast_16 v1094 l

theorem k3_pay160_lane (v1099 : Vec F S1x1x16 .f32) (l : Fin 16) :
    k3_pay160 v1099 (ix1 l) = v1099 (ix3 (0 : Fin 1) (0 : Fin 1) l) := by
  unfold k3_pay160
  exact cast_16 v1099 l

theorem k3_pay161_lane (v1104 : Vec F S1x1x16 .f32) (l : Fin 16) :
    k3_pay161 v1104 (ix1 l) = v1104 (ix3 (0 : Fin 1) (0 : Fin 1) l) := by
  unfold k3_pay161
  exact cast_16 v1104 l

theorem k3_pay162_lane (v1109 : Vec F S1x1x16 .f32) (l : Fin 16) :
    k3_pay162 v1109 (ix1 l) = v1109 (ix3 (0 : Fin 1) (0 : Fin 1) l) := by
  unfold k3_pay162
  exact cast_16 v1109 l

theorem k3_pay163_lane (v1114 : Vec F S1x1x16 .f32) (l : Fin 16) :
    k3_pay163 v1114 (ix1 l) = v1114 (ix3 (0 : Fin 1) (0 : Fin 1) l) := by
  unfold k3_pay163
  exact cast_16 v1114 l

theorem k3_pay164_lane (v1119 : Vec F S1x1x16 .f32) (l : Fin 16) :
    k3_pay164 v1119 (ix1 l) = v1119 (ix3 (0 : Fin 1) (0 : Fin 1) l) := by
  unfold k3_pay164
  exact cast_16 v1119 l

theorem k3_pay165_lane (v1124 : Vec F S1x1x16 .f32) (l : Fin 16) :
    k3_pay165 v1124 (ix1 l) = v1124 (ix3 (0 : Fin 1) (0 : Fin 1) l) := by
  unfold k3_pay165
  exact cast_16 v1124 l

theorem k3_pay166_lane (v1129 : Vec F S1x1x16 .f32) (l : Fin 16) :
    k3_pay166 v1129 (ix1 l) = v1129 (ix3 (0 : Fin 1) (0 : Fin 1) l) := by
  unfold k3_pay166
  exact cast_16 v1129 l

theorem k3_pay167_lane (v1134 : Vec F S1x1x16 .f32) (l : Fin 16) :
    k3_pay167 v1134 (ix1 l) = v1134 (ix3 (0 : Fin 1) (0 : Fin 1) l) := by
  unfold k3_pay167
  exact cast_16 v1134 l

theorem k3_pay168_lane (v1139 : Vec F S1x1x16 .f32) (l : Fin 16) :
    k3_pay168 v1139 (ix1 l) = v1139 (ix3 (0 : Fin 1) (0 : Fin 1) l) := by
  unfold k3_pay168
  exact cast_16 v1139 l

theorem k3_pay169_lane (v1144 : Vec F S1x1x16 .f32) (l : Fin 16) :
    k3_pay169 v1144 (ix1 l) = v1144 (ix3 (0 : Fin 1) (0 : Fin 1) l) := by
  unfold k3_pay169
  exact cast_16 v1144 l

theorem k3_pay170_lane (v1149 : Vec F S1x1x16 .f32) (l : Fin 16) :
    k3_pay170 v1149 (ix1 l) = v1149 (ix3 (0 : Fin 1) (0 : Fin 1) l) := by
  unfold k3_pay170
  exact cast_16 v1149 l

theorem k3_pay171_lane (v1154 : Vec F S1x1x16 .f32) (l : Fin 16) :
    k3_pay171 v1154 (ix1 l) = v1154 (ix3 (0 : Fin 1) (0 : Fin 1) l) := by
  unfold k3_pay171
  exact cast_16 v1154 l

theorem k3_pay172_lane (v1159 : Vec F S1x1x16 .f32) (l : Fin 16) :
    k3_pay172 v1159 (ix1 l) = v1159 (ix3 (0 : Fin 1) (0 : Fin 1) l) := by
  unfold k3_pay172
  exact cast_16 v1159 l

theorem k3_pay173_lane (v1164 : Vec F S1x1x16 .f32) (l : Fin 16) :
    k3_pay173 v1164 (ix1 l) = v1164 (ix3 (0 : Fin 1) (0 : Fin 1) l) := by
  unfold k3_pay173
  exact cast_16 v1164 l

theorem k3_pay174_lane (v1169 : Vec F S1x1x16 .f32) (l : Fin 16) :
    k3_pay174 v1169 (ix1 l) = v1169 (ix3 (0 : Fin 1) (0 : Fin 1) l) := by
  unfold k3_pay174
  exact cast_16 v1169 l

theorem k3_pay175_lane (v1174 : Vec F S1x1x16 .f32) (l : Fin 16) :
    k3_pay175 v1174 (ix1 l) = v1174 (ix3 (0 : Fin 1) (0 : Fin 1) l) := by
  unfold k3_pay175
  exact cast_16 v1174 l

theorem k3_pay176_lane (v1179 : Vec F S1x1x16 .f32) (l : Fin 16) :
    k3_pay176 v1179 (ix1 l) = v1179 (ix3 (0 : Fin 1) (0 : Fin 1) l) := by
  unfold k3_pay176
  exact cast_16 v1179 l

theorem k3_pay177_lane (v1184 : Vec F S1x1x16 .f32) (l : Fin 16) :
    k3_pay177 v1184 (ix1 l) = v1184 (ix3 (0 : Fin 1) (0 : Fin 1) l) := by
  unfold k3_pay177
  exact cast_16 v1184 l

theorem k3_pay178_lane (v1189 : Vec F S1x1x16 .f32) (l : Fin 16) :
    k3_pay178 v1189 (ix1 l) = v1189 (ix3 (0 : Fin 1) (0 : Fin 1) l) := by
  unfold k3_pay178
  exact cast_16 v1189 l

theorem k3_pay179_lane (v1194 : Vec F S1x1x16 .f32) (l : Fin 16) :
    k3_pay179 v1194 (ix1 l) = v1194 (ix3 (0 : Fin 1) (0 : Fin 1) l) := by
  unfold k3_pay179
  exact cast_16 v1194 l

theorem k3_pay180_lane (v1199 : Vec F S1x1x16 .f32) (l : Fin 16) :
    k3_pay180 v1199 (ix1 l) = v1199 (ix3 (0 : Fin 1) (0 : Fin 1) l) := by
  unfold k3_pay180
  exact cast_16 v1199 l

theorem k3_pay181_lane (v1204 : Vec F S1x1x16 .f32) (l : Fin 16) :
    k3_pay181 v1204 (ix1 l) = v1204 (ix3 (0 : Fin 1) (0 : Fin 1) l) := by
  unfold k3_pay181
  exact cast_16 v1204 l

theorem k3_pay182_lane (v1209 : Vec F S1x1x16 .f32) (l : Fin 16) :
    k3_pay182 v1209 (ix1 l) = v1209 (ix3 (0 : Fin 1) (0 : Fin 1) l) := by
  unfold k3_pay182
  exact cast_16 v1209 l

theorem k3_pay183_lane (v1214 : Vec F S1x1x16 .f32) (l : Fin 16) :
    k3_pay183 v1214 (ix1 l) = v1214 (ix3 (0 : Fin 1) (0 : Fin 1) l) := by
  unfold k3_pay183
  exact cast_16 v1214 l

theorem k3_pay184_lane (v1219 : Vec F S1x1x16 .f32) (l : Fin 16) :
    k3_pay184 v1219 (ix1 l) = v1219 (ix3 (0 : Fin 1) (0 : Fin 1) l) := by
  unfold k3_pay184
  exact cast_16 v1219 l

theorem k3_pay185_lane (v1224 : Vec F S1x1x16 .f32) (l : Fin 16) :
    k3_pay185 v1224 (ix1 l) = v1224 (ix3 (0 : Fin 1) (0 : Fin 1) l) := by
  unfold k3_pay185
  exact cast_16 v1224 l

theorem k3_pay186_lane (v1229 : Vec F S1x1x16 .f32) (l : Fin 16) :
    k3_pay186 v1229 (ix1 l) = v1229 (ix3 (0 : Fin 1) (0 : Fin 1) l) := by
  unfold k3_pay186
  exact cast_16 v1229 l

theorem k3_pay187_lane (v1234 : Vec F S1x1x16 .f32) (l : Fin 16) :
    k3_pay187 v1234 (ix1 l) = v1234 (ix3 (0 : Fin 1) (0 : Fin 1) l) := by
  unfold k3_pay187
  exact cast_16 v1234 l

theorem k3_pay188_lane (v1239 : Vec F S1x1x16 .f32) (l : Fin 16) :
    k3_pay188 v1239 (ix1 l) = v1239 (ix3 (0 : Fin 1) (0 : Fin 1) l) := by
  unfold k3_pay188
  exact cast_16 v1239 l

theorem k3_pay189_lane (v1244 : Vec F S1x1x16 .f32) (l : Fin 16) :
    k3_pay189 v1244 (ix1 l) = v1244 (ix3 (0 : Fin 1) (0 : Fin 1) l) := by
  unfold k3_pay189
  exact cast_16 v1244 l

theorem k3_pay190_lane (v1249 : Vec F S1x1x16 .f32) (l : Fin 16) :
    k3_pay190 v1249 (ix1 l) = v1249 (ix3 (0 : Fin 1) (0 : Fin 1) l) := by
  unfold k3_pay190
  exact cast_16 v1249 l

theorem k3_pay191_lane (v1095 : FVec F S16 .f32) (v1100 : FVec F S16 .f32) (l : Fin 16) :
    k3_pay191 v1095 v1100 (ix1 l) = FloatOps.addf (v1095 (ix1 l)) (v1100 (ix1 l)) := by
  unfold k3_pay191
  exact congrArg₂ FloatOps.addf (rfl) (rfl)

theorem k3_pay192_lane (v1105 : FVec F S16 .f32) (v1110 : FVec F S16 .f32) (l : Fin 16) :
    k3_pay192 v1105 v1110 (ix1 l) = FloatOps.addf (v1105 (ix1 l)) (v1110 (ix1 l)) := by
  unfold k3_pay192
  exact congrArg₂ FloatOps.addf (rfl) (rfl)

theorem k3_pay193_lane (v1115 : FVec F S16 .f32) (v1120 : FVec F S16 .f32) (l : Fin 16) :
    k3_pay193 v1115 v1120 (ix1 l) = FloatOps.addf (v1115 (ix1 l)) (v1120 (ix1 l)) := by
  unfold k3_pay193
  exact congrArg₂ FloatOps.addf (rfl) (rfl)

theorem k3_pay194_lane (v1125 : FVec F S16 .f32) (v1130 : FVec F S16 .f32) (l : Fin 16) :
    k3_pay194 v1125 v1130 (ix1 l) = FloatOps.addf (v1125 (ix1 l)) (v1130 (ix1 l)) := by
  unfold k3_pay194
  exact congrArg₂ FloatOps.addf (rfl) (rfl)

theorem k3_pay195_lane (v1135 : FVec F S16 .f32) (v1140 : FVec F S16 .f32) (l : Fin 16) :
    k3_pay195 v1135 v1140 (ix1 l) = FloatOps.addf (v1135 (ix1 l)) (v1140 (ix1 l)) := by
  unfold k3_pay195
  exact congrArg₂ FloatOps.addf (rfl) (rfl)

theorem k3_pay196_lane (v1145 : FVec F S16 .f32) (v1150 : FVec F S16 .f32) (l : Fin 16) :
    k3_pay196 v1145 v1150 (ix1 l) = FloatOps.addf (v1145 (ix1 l)) (v1150 (ix1 l)) := by
  unfold k3_pay196
  exact congrArg₂ FloatOps.addf (rfl) (rfl)

theorem k3_pay197_lane (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (l : Fin 16) :
    k3_pay197 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = FloatOps.addf (FloatOps.addf (FloatOps.addf (FloatOps.addf (v1251 (ix1 l)) (v1252 (ix1 l))) (FloatOps.addf (v1253 (ix1 l)) (v1254 (ix1 l)))) (FloatOps.addf (FloatOps.addf (v1255 (ix1 l)) (v1256 (ix1 l))) (FloatOps.addf (FloatOps.addf (v1155 (ix1 l)) (v1160 (ix1 l))) (FloatOps.addf (v1165 (ix1 l)) (v1170 (ix1 l)))))) (FloatOps.addf (FloatOps.addf (FloatOps.addf (FloatOps.addf (v1175 (ix1 l)) (v1180 (ix1 l))) (FloatOps.addf (v1185 (ix1 l)) (v1190 (ix1 l)))) (FloatOps.addf (FloatOps.addf (v1195 (ix1 l)) (v1200 (ix1 l))) (FloatOps.addf (v1205 (ix1 l)) (v1210 (ix1 l))))) (FloatOps.addf (FloatOps.addf (FloatOps.addf (v1215 (ix1 l)) (v1220 (ix1 l))) (FloatOps.addf (v1225 (ix1 l)) (v1230 (ix1 l)))) (FloatOps.addf (FloatOps.addf (v1235 (ix1 l)) (v1240 (ix1 l))) (FloatOps.addf (v1245 (ix1 l)) (v1250 (ix1 l)))))) := by
  unfold k3_pay197
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k3_pay197_tree (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (w : Fin 32 → F .f32) (l : Fin 16)
    (h_v1251 : v1251 (ix1 l) = FloatOps.addf (w 0) (w 1))
    (h_v1252 : v1252 (ix1 l) = FloatOps.addf (w 2) (w 3))
    (h_v1253 : v1253 (ix1 l) = FloatOps.addf (w 4) (w 5))
    (h_v1254 : v1254 (ix1 l) = FloatOps.addf (w 6) (w 7))
    (h_v1255 : v1255 (ix1 l) = FloatOps.addf (w 8) (w 9))
    (h_v1256 : v1256 (ix1 l) = FloatOps.addf (w 10) (w 11))
    (h_v1155 : v1155 (ix1 l) = w 12)
    (h_v1160 : v1160 (ix1 l) = w 13)
    (h_v1165 : v1165 (ix1 l) = w 14)
    (h_v1170 : v1170 (ix1 l) = w 15)
    (h_v1175 : v1175 (ix1 l) = w 16)
    (h_v1180 : v1180 (ix1 l) = w 17)
    (h_v1185 : v1185 (ix1 l) = w 18)
    (h_v1190 : v1190 (ix1 l) = w 19)
    (h_v1195 : v1195 (ix1 l) = w 20)
    (h_v1200 : v1200 (ix1 l) = w 21)
    (h_v1205 : v1205 (ix1 l) = w 22)
    (h_v1210 : v1210 (ix1 l) = w 23)
    (h_v1215 : v1215 (ix1 l) = w 24)
    (h_v1220 : v1220 (ix1 l) = w 25)
    (h_v1225 : v1225 (ix1 l) = w 26)
    (h_v1230 : v1230 (ix1 l) = w 27)
    (h_v1235 : v1235 (ix1 l) = w 28)
    (h_v1240 : v1240 (ix1 l) = w 29)
    (h_v1245 : v1245 (ix1 l) = w 30)
    (h_v1250 : v1250 (ix1 l) = w 31) :
    k3_pay197 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = tree32 w := by
  unfold k3_pay197
  refine (cast_116 _ l).trans ?_
  exact congrArg₂ FloatOps.addf (congrArg₂ FloatOps.addf (congrArg₂ FloatOps.addf (congrArg₂ FloatOps.addf (h_v1251) (h_v1252)) (congrArg₂ FloatOps.addf (h_v1253) (h_v1254))) (congrArg₂ FloatOps.addf (congrArg₂ FloatOps.addf (h_v1255) (h_v1256)) (congrArg₂ FloatOps.addf (congrArg₂ FloatOps.addf (h_v1155) (h_v1160)) (congrArg₂ FloatOps.addf (h_v1165) (h_v1170))))) (congrArg₂ FloatOps.addf (congrArg₂ FloatOps.addf (congrArg₂ FloatOps.addf (congrArg₂ FloatOps.addf (h_v1175) (h_v1180)) (congrArg₂ FloatOps.addf (h_v1185) (h_v1190))) (congrArg₂ FloatOps.addf (congrArg₂ FloatOps.addf (h_v1195) (h_v1200)) (congrArg₂ FloatOps.addf (h_v1205) (h_v1210)))) (congrArg₂ FloatOps.addf (congrArg₂ FloatOps.addf (congrArg₂ FloatOps.addf (h_v1215) (h_v1220)) (congrArg₂ FloatOps.addf (h_v1225) (h_v1230))) (congrArg₂ FloatOps.addf (congrArg₂ FloatOps.addf (h_v1235) (h_v1240)) (congrArg₂ FloatOps.addf (h_v1245) (h_v1250)))))

theorem k3_pay198_lane (v1290 : Vec F S1x1x16 .f32) (l : Fin 16) :
    k3_pay198 v1290 (ix1 l) = v1290 (ix3 (0 : Fin 1) (0 : Fin 1) l) := by
  unfold k3_pay198
  exact cast_16 v1290 l

theorem k3_pay199_lane (v1295 : Vec F S1x1x16 .f32) (l : Fin 16) :
    k3_pay199 v1295 (ix1 l) = v1295 (ix3 (0 : Fin 1) (0 : Fin 1) l) := by
  unfold k3_pay199
  exact cast_16 v1295 l

theorem k3_pay200_lane (v1300 : Vec F S1x1x16 .f32) (l : Fin 16) :
    k3_pay200 v1300 (ix1 l) = v1300 (ix3 (0 : Fin 1) (0 : Fin 1) l) := by
  unfold k3_pay200
  exact cast_16 v1300 l

theorem k3_pay201_lane (v1305 : Vec F S1x1x16 .f32) (l : Fin 16) :
    k3_pay201 v1305 (ix1 l) = v1305 (ix3 (0 : Fin 1) (0 : Fin 1) l) := by
  unfold k3_pay201
  exact cast_16 v1305 l

theorem k3_pay202_lane (v1310 : Vec F S1x1x16 .f32) (l : Fin 16) :
    k3_pay202 v1310 (ix1 l) = v1310 (ix3 (0 : Fin 1) (0 : Fin 1) l) := by
  unfold k3_pay202
  exact cast_16 v1310 l

theorem k3_pay203_lane (v1315 : Vec F S1x1x16 .f32) (l : Fin 16) :
    k3_pay203 v1315 (ix1 l) = v1315 (ix3 (0 : Fin 1) (0 : Fin 1) l) := by
  unfold k3_pay203
  exact cast_16 v1315 l

theorem k3_pay204_lane (v1320 : Vec F S1x1x16 .f32) (l : Fin 16) :
    k3_pay204 v1320 (ix1 l) = v1320 (ix3 (0 : Fin 1) (0 : Fin 1) l) := by
  unfold k3_pay204
  exact cast_16 v1320 l

theorem k3_pay205_lane (v1325 : Vec F S1x1x16 .f32) (l : Fin 16) :
    k3_pay205 v1325 (ix1 l) = v1325 (ix3 (0 : Fin 1) (0 : Fin 1) l) := by
  unfold k3_pay205
  exact cast_16 v1325 l

theorem k3_pay206_lane (v1330 : Vec F S1x1x16 .f32) (l : Fin 16) :
    k3_pay206 v1330 (ix1 l) = v1330 (ix3 (0 : Fin 1) (0 : Fin 1) l) := by
  unfold k3_pay206
  exact cast_16 v1330 l

theorem k3_pay207_lane (v1335 : Vec F S1x1x16 .f32) (l : Fin 16) :
    k3_pay207 v1335 (ix1 l) = v1335 (ix3 (0 : Fin 1) (0 : Fin 1) l) := by
  unfold k3_pay207
  exact cast_16 v1335 l

theorem k3_pay208_lane (v1340 : Vec F S1x1x16 .f32) (l : Fin 16) :
    k3_pay208 v1340 (ix1 l) = v1340 (ix3 (0 : Fin 1) (0 : Fin 1) l) := by
  unfold k3_pay208
  exact cast_16 v1340 l

theorem k3_pay209_lane (v1345 : Vec F S1x1x16 .f32) (l : Fin 16) :
    k3_pay209 v1345 (ix1 l) = v1345 (ix3 (0 : Fin 1) (0 : Fin 1) l) := by
  unfold k3_pay209
  exact cast_16 v1345 l

theorem k3_pay210_lane (v1350 : Vec F S1x1x16 .f32) (l : Fin 16) :
    k3_pay210 v1350 (ix1 l) = v1350 (ix3 (0 : Fin 1) (0 : Fin 1) l) := by
  unfold k3_pay210
  exact cast_16 v1350 l

theorem k3_pay211_lane (v1355 : Vec F S1x1x16 .f32) (l : Fin 16) :
    k3_pay211 v1355 (ix1 l) = v1355 (ix3 (0 : Fin 1) (0 : Fin 1) l) := by
  unfold k3_pay211
  exact cast_16 v1355 l

theorem k3_pay212_lane (v1360 : Vec F S1x1x16 .f32) (l : Fin 16) :
    k3_pay212 v1360 (ix1 l) = v1360 (ix3 (0 : Fin 1) (0 : Fin 1) l) := by
  unfold k3_pay212
  exact cast_16 v1360 l

theorem k3_pay213_lane (v1365 : Vec F S1x1x16 .f32) (l : Fin 16) :
    k3_pay213 v1365 (ix1 l) = v1365 (ix3 (0 : Fin 1) (0 : Fin 1) l) := by
  unfold k3_pay213
  exact cast_16 v1365 l

theorem k3_pay214_lane (v1370 : Vec F S1x1x16 .f32) (l : Fin 16) :
    k3_pay214 v1370 (ix1 l) = v1370 (ix3 (0 : Fin 1) (0 : Fin 1) l) := by
  unfold k3_pay214
  exact cast_16 v1370 l

theorem k3_pay215_lane (v1375 : Vec F S1x1x16 .f32) (l : Fin 16) :
    k3_pay215 v1375 (ix1 l) = v1375 (ix3 (0 : Fin 1) (0 : Fin 1) l) := by
  unfold k3_pay215
  exact cast_16 v1375 l

theorem k3_pay216_lane (v1380 : Vec F S1x1x16 .f32) (l : Fin 16) :
    k3_pay216 v1380 (ix1 l) = v1380 (ix3 (0 : Fin 1) (0 : Fin 1) l) := by
  unfold k3_pay216
  exact cast_16 v1380 l

theorem k3_pay217_lane (v1385 : Vec F S1x1x16 .f32) (l : Fin 16) :
    k3_pay217 v1385 (ix1 l) = v1385 (ix3 (0 : Fin 1) (0 : Fin 1) l) := by
  unfold k3_pay217
  exact cast_16 v1385 l

theorem k3_pay218_lane (v1390 : Vec F S1x1x16 .f32) (l : Fin 16) :
    k3_pay218 v1390 (ix1 l) = v1390 (ix3 (0 : Fin 1) (0 : Fin 1) l) := by
  unfold k3_pay218
  exact cast_16 v1390 l

theorem k3_pay219_lane (v1395 : Vec F S1x1x16 .f32) (l : Fin 16) :
    k3_pay219 v1395 (ix1 l) = v1395 (ix3 (0 : Fin 1) (0 : Fin 1) l) := by
  unfold k3_pay219
  exact cast_16 v1395 l

theorem k3_pay220_lane (v1400 : Vec F S1x1x16 .f32) (l : Fin 16) :
    k3_pay220 v1400 (ix1 l) = v1400 (ix3 (0 : Fin 1) (0 : Fin 1) l) := by
  unfold k3_pay220
  exact cast_16 v1400 l

theorem k3_pay221_lane (v1405 : Vec F S1x1x16 .f32) (l : Fin 16) :
    k3_pay221 v1405 (ix1 l) = v1405 (ix3 (0 : Fin 1) (0 : Fin 1) l) := by
  unfold k3_pay221
  exact cast_16 v1405 l

theorem k3_pay222_lane (v1410 : Vec F S1x1x16 .f32) (l : Fin 16) :
    k3_pay222 v1410 (ix1 l) = v1410 (ix3 (0 : Fin 1) (0 : Fin 1) l) := by
  unfold k3_pay222
  exact cast_16 v1410 l

theorem k3_pay223_lane (v1415 : Vec F S1x1x16 .f32) (l : Fin 16) :
    k3_pay223 v1415 (ix1 l) = v1415 (ix3 (0 : Fin 1) (0 : Fin 1) l) := by
  unfold k3_pay223
  exact cast_16 v1415 l

theorem k3_pay224_lane (v1420 : Vec F S1x1x16 .f32) (l : Fin 16) :
    k3_pay224 v1420 (ix1 l) = v1420 (ix3 (0 : Fin 1) (0 : Fin 1) l) := by
  unfold k3_pay224
  exact cast_16 v1420 l

theorem k3_pay225_lane (v1425 : Vec F S1x1x16 .f32) (l : Fin 16) :
    k3_pay225 v1425 (ix1 l) = v1425 (ix3 (0 : Fin 1) (0 : Fin 1) l) := by
  unfold k3_pay225
  exact cast_16 v1425 l

theorem k3_pay226_lane (v1430 : Vec F S1x1x16 .f32) (l : Fin 16) :
    k3_pay226 v1430 (ix1 l) = v1430 (ix3 (0 : Fin 1) (0 : Fin 1) l) := by
  unfold k3_pay226
  exact cast_16 v1430 l

theorem k3_pay227_lane (v1435 : Vec F S1x1x16 .f32) (l : Fin 16) :
    k3_pay227 v1435 (ix1 l) = v1435 (ix3 (0 : Fin 1) (0 : Fin 1) l) := by
  unfold k3_pay227
  exact cast_16 v1435 l

theorem k3_pay228_lane (v1440 : Vec F S1x1x16 .f32) (l : Fin 16) :
    k3_pay228 v1440 (ix1 l) = v1440 (ix3 (0 : Fin 1) (0 : Fin 1) l) := by
  unfold k3_pay228
  exact cast_16 v1440 l

theorem k3_pay229_lane (v1445 : Vec F S1x1x16 .f32) (l : Fin 16) :
    k3_pay229 v1445 (ix1 l) = v1445 (ix3 (0 : Fin 1) (0 : Fin 1) l) := by
  unfold k3_pay229
  exact cast_16 v1445 l

theorem k3_pay230_lane (v1291 : FVec F S16 .f32) (v1296 : FVec F S16 .f32) (l : Fin 16) :
    k3_pay230 v1291 v1296 (ix1 l) = FloatOps.addf (v1291 (ix1 l)) (v1296 (ix1 l)) := by
  unfold k3_pay230
  exact congrArg₂ FloatOps.addf (rfl) (rfl)

theorem k3_pay231_lane (v1301 : FVec F S16 .f32) (v1306 : FVec F S16 .f32) (l : Fin 16) :
    k3_pay231 v1301 v1306 (ix1 l) = FloatOps.addf (v1301 (ix1 l)) (v1306 (ix1 l)) := by
  unfold k3_pay231
  exact congrArg₂ FloatOps.addf (rfl) (rfl)

theorem k3_pay232_lane (v1311 : FVec F S16 .f32) (v1316 : FVec F S16 .f32) (l : Fin 16) :
    k3_pay232 v1311 v1316 (ix1 l) = FloatOps.addf (v1311 (ix1 l)) (v1316 (ix1 l)) := by
  unfold k3_pay232
  exact congrArg₂ FloatOps.addf (rfl) (rfl)

theorem k3_pay233_lane (v1321 : FVec F S16 .f32) (v1326 : FVec F S16 .f32) (l : Fin 16) :
    k3_pay233 v1321 v1326 (ix1 l) = FloatOps.addf (v1321 (ix1 l)) (v1326 (ix1 l)) := by
  unfold k3_pay233
  exact congrArg₂ FloatOps.addf (rfl) (rfl)

theorem k3_pay234_lane (v1331 : FVec F S16 .f32) (v1336 : FVec F S16 .f32) (l : Fin 16) :
    k3_pay234 v1331 v1336 (ix1 l) = FloatOps.addf (v1331 (ix1 l)) (v1336 (ix1 l)) := by
  unfold k3_pay234
  exact congrArg₂ FloatOps.addf (rfl) (rfl)

theorem k3_pay235_lane (v1341 : FVec F S16 .f32) (v1346 : FVec F S16 .f32) (l : Fin 16) :
    k3_pay235 v1341 v1346 (ix1 l) = FloatOps.addf (v1341 (ix1 l)) (v1346 (ix1 l)) := by
  unfold k3_pay235
  exact congrArg₂ FloatOps.addf (rfl) (rfl)

theorem k3_pay236_lane (v1351 : FVec F S16 .f32) (v1356 : FVec F S16 .f32) (l : Fin 16) :
    k3_pay236 v1351 v1356 (ix1 l) = FloatOps.addf (v1351 (ix1 l)) (v1356 (ix1 l)) := by
  unfold k3_pay236
  exact congrArg₂ FloatOps.addf (rfl) (rfl)

theorem k3_pay237_lane (v1361 : FVec F S16 .f32) (v1366 : FVec F S16 .f32) (l : Fin 16) :
    k3_pay237 v1361 v1366 (ix1 l) = FloatOps.addf (v1361 (ix1 l)) (v1366 (ix1 l)) := by
  unfold k3_pay237
  exact congrArg₂ FloatOps.addf (rfl) (rfl)

theorem k3_pay238_lane (v1371 : FVec F S16 .f32) (v1376 : FVec F S16 .f32) (l : Fin 16) :
    k3_pay238 v1371 v1376 (ix1 l) = FloatOps.addf (v1371 (ix1 l)) (v1376 (ix1 l)) := by
  unfold k3_pay238
  exact congrArg₂ FloatOps.addf (rfl) (rfl)

theorem k3_pay239_lane (v1381 : FVec F S16 .f32) (v1386 : FVec F S16 .f32) (l : Fin 16) :
    k3_pay239 v1381 v1386 (ix1 l) = FloatOps.addf (v1381 (ix1 l)) (v1386 (ix1 l)) := by
  unfold k3_pay239
  exact congrArg₂ FloatOps.addf (rfl) (rfl)

theorem k3_pay240_lane (v1391 : FVec F S16 .f32) (v1396 : FVec F S16 .f32) (l : Fin 16) :
    k3_pay240 v1391 v1396 (ix1 l) = FloatOps.addf (v1391 (ix1 l)) (v1396 (ix1 l)) := by
  unfold k3_pay240
  exact congrArg₂ FloatOps.addf (rfl) (rfl)

theorem k3_pay241_lane (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (l : Fin 16) :
    k3_pay241 v1401 v1406 v1411 v1416 v1421 v1426 v1431 v1436 v1441 v1446 v1447 v1448 v1449 v1450 v1451 v1452 v1453 v1454 v1455 v1456 v1457 (ix3 (0 : Fin 1) (0 : Fin 1) l) = FloatOps.addf (FloatOps.addf (FloatOps.addf (FloatOps.addf (v1447 (ix1 l)) (v1448 (ix1 l))) (FloatOps.addf (v1449 (ix1 l)) (v1450 (ix1 l)))) (FloatOps.addf (FloatOps.addf (v1451 (ix1 l)) (v1452 (ix1 l))) (FloatOps.addf (v1453 (ix1 l)) (v1454 (ix1 l))))) (FloatOps.addf (FloatOps.addf (FloatOps.addf (v1455 (ix1 l)) (v1456 (ix1 l))) (FloatOps.addf (v1457 (ix1 l)) (FloatOps.addf (v1401 (ix1 l)) (v1406 (ix1 l))))) (FloatOps.addf (FloatOps.addf (FloatOps.addf (v1411 (ix1 l)) (v1416 (ix1 l))) (FloatOps.addf (v1421 (ix1 l)) (v1426 (ix1 l)))) (FloatOps.addf (FloatOps.addf (v1431 (ix1 l)) (v1436 (ix1 l))) (FloatOps.addf (v1441 (ix1 l)) (v1446 (ix1 l)))))) := by
  unfold k3_pay241
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k3_pay241_tree (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (w : Fin 32 → F .f32) (l : Fin 16)
    (h_v1447 : v1447 (ix1 l) = FloatOps.addf (w 0) (w 1))
    (h_v1448 : v1448 (ix1 l) = FloatOps.addf (w 2) (w 3))
    (h_v1449 : v1449 (ix1 l) = FloatOps.addf (w 4) (w 5))
    (h_v1450 : v1450 (ix1 l) = FloatOps.addf (w 6) (w 7))
    (h_v1451 : v1451 (ix1 l) = FloatOps.addf (w 8) (w 9))
    (h_v1452 : v1452 (ix1 l) = FloatOps.addf (w 10) (w 11))
    (h_v1453 : v1453 (ix1 l) = FloatOps.addf (w 12) (w 13))
    (h_v1454 : v1454 (ix1 l) = FloatOps.addf (w 14) (w 15))
    (h_v1455 : v1455 (ix1 l) = FloatOps.addf (w 16) (w 17))
    (h_v1456 : v1456 (ix1 l) = FloatOps.addf (w 18) (w 19))
    (h_v1457 : v1457 (ix1 l) = FloatOps.addf (w 20) (w 21))
    (h_v1401 : v1401 (ix1 l) = w 22)
    (h_v1406 : v1406 (ix1 l) = w 23)
    (h_v1411 : v1411 (ix1 l) = w 24)
    (h_v1416 : v1416 (ix1 l) = w 25)
    (h_v1421 : v1421 (ix1 l) = w 26)
    (h_v1426 : v1426 (ix1 l) = w 27)
    (h_v1431 : v1431 (ix1 l) = w 28)
    (h_v1436 : v1436 (ix1 l) = w 29)
    (h_v1441 : v1441 (ix1 l) = w 30)
    (h_v1446 : v1446 (ix1 l) = w 31) :
    k3_pay241 v1401 v1406 v1411 v1416 v1421 v1426 v1431 v1436 v1441 v1446 v1447 v1448 v1449 v1450 v1451 v1452 v1453 v1454 v1455 v1456 v1457 (ix3 (0 : Fin 1) (0 : Fin 1) l) = tree32 w := by
  unfold k3_pay241
  refine (cast_116 _ l).trans ?_
  exact congrArg₂ FloatOps.addf (congrArg₂ FloatOps.addf (congrArg₂ FloatOps.addf (congrArg₂ FloatOps.addf (h_v1447) (h_v1448)) (congrArg₂ FloatOps.addf (h_v1449) (h_v1450))) (congrArg₂ FloatOps.addf (congrArg₂ FloatOps.addf (h_v1451) (h_v1452)) (congrArg₂ FloatOps.addf (h_v1453) (h_v1454)))) (congrArg₂ FloatOps.addf (congrArg₂ FloatOps.addf (congrArg₂ FloatOps.addf (h_v1455) (h_v1456)) (congrArg₂ FloatOps.addf (h_v1457) (congrArg₂ FloatOps.addf (h_v1401) (h_v1406)))) (congrArg₂ FloatOps.addf (congrArg₂ FloatOps.addf (congrArg₂ FloatOps.addf (h_v1411) (h_v1416)) (congrArg₂ FloatOps.addf (h_v1421) (h_v1426))) (congrArg₂ FloatOps.addf (congrArg₂ FloatOps.addf (h_v1431) (h_v1436)) (congrArg₂ FloatOps.addf (h_v1441) (h_v1446)))))

theorem k3_pay242_lane (v1486 : Vec F S1x1x16 .f32) (l : Fin 16) :
    k3_pay242 v1486 (ix1 l) = v1486 (ix3 (0 : Fin 1) (0 : Fin 1) l) := by
  unfold k3_pay242
  exact cast_16 v1486 l

theorem k3_pay243_lane (v1491 : Vec F S1x1x16 .f32) (l : Fin 16) :
    k3_pay243 v1491 (ix1 l) = v1491 (ix3 (0 : Fin 1) (0 : Fin 1) l) := by
  unfold k3_pay243
  exact cast_16 v1491 l

theorem k3_pay244_lane (v1496 : Vec F S1x1x16 .f32) (l : Fin 16) :
    k3_pay244 v1496 (ix1 l) = v1496 (ix3 (0 : Fin 1) (0 : Fin 1) l) := by
  unfold k3_pay244
  exact cast_16 v1496 l

theorem k3_pay245_lane (v1501 : Vec F S1x1x16 .f32) (l : Fin 16) :
    k3_pay245 v1501 (ix1 l) = v1501 (ix3 (0 : Fin 1) (0 : Fin 1) l) := by
  unfold k3_pay245
  exact cast_16 v1501 l

theorem k3_pay246_lane (v1506 : Vec F S1x1x16 .f32) (l : Fin 16) :
    k3_pay246 v1506 (ix1 l) = v1506 (ix3 (0 : Fin 1) (0 : Fin 1) l) := by
  unfold k3_pay246
  exact cast_16 v1506 l

theorem k3_pay247_lane (v1511 : Vec F S1x1x16 .f32) (l : Fin 16) :
    k3_pay247 v1511 (ix1 l) = v1511 (ix3 (0 : Fin 1) (0 : Fin 1) l) := by
  unfold k3_pay247
  exact cast_16 v1511 l

theorem k3_pay248_lane (v1516 : Vec F S1x1x16 .f32) (l : Fin 16) :
    k3_pay248 v1516 (ix1 l) = v1516 (ix3 (0 : Fin 1) (0 : Fin 1) l) := by
  unfold k3_pay248
  exact cast_16 v1516 l

theorem k3_pay249_lane (v1521 : Vec F S1x1x16 .f32) (l : Fin 16) :
    k3_pay249 v1521 (ix1 l) = v1521 (ix3 (0 : Fin 1) (0 : Fin 1) l) := by
  unfold k3_pay249
  exact cast_16 v1521 l

theorem k3_pay250_lane (v1526 : Vec F S1x1x16 .f32) (l : Fin 16) :
    k3_pay250 v1526 (ix1 l) = v1526 (ix3 (0 : Fin 1) (0 : Fin 1) l) := by
  unfold k3_pay250
  exact cast_16 v1526 l

theorem k3_pay251_lane (v1531 : Vec F S1x1x16 .f32) (l : Fin 16) :
    k3_pay251 v1531 (ix1 l) = v1531 (ix3 (0 : Fin 1) (0 : Fin 1) l) := by
  unfold k3_pay251
  exact cast_16 v1531 l

theorem k3_pay252_lane (v1536 : Vec F S1x1x16 .f32) (l : Fin 16) :
    k3_pay252 v1536 (ix1 l) = v1536 (ix3 (0 : Fin 1) (0 : Fin 1) l) := by
  unfold k3_pay252
  exact cast_16 v1536 l

theorem k3_pay253_lane (v1541 : Vec F S1x1x16 .f32) (l : Fin 16) :
    k3_pay253 v1541 (ix1 l) = v1541 (ix3 (0 : Fin 1) (0 : Fin 1) l) := by
  unfold k3_pay253
  exact cast_16 v1541 l

theorem k3_pay254_lane (v1546 : Vec F S1x1x16 .f32) (l : Fin 16) :
    k3_pay254 v1546 (ix1 l) = v1546 (ix3 (0 : Fin 1) (0 : Fin 1) l) := by
  unfold k3_pay254
  exact cast_16 v1546 l

theorem k3_pay255_lane (v1551 : Vec F S1x1x16 .f32) (l : Fin 16) :
    k3_pay255 v1551 (ix1 l) = v1551 (ix3 (0 : Fin 1) (0 : Fin 1) l) := by
  unfold k3_pay255
  exact cast_16 v1551 l

theorem k3_pay256_lane (v1556 : Vec F S1x1x16 .f32) (l : Fin 16) :
    k3_pay256 v1556 (ix1 l) = v1556 (ix3 (0 : Fin 1) (0 : Fin 1) l) := by
  unfold k3_pay256
  exact cast_16 v1556 l

theorem k3_pay257_lane (v1561 : Vec F S1x1x16 .f32) (l : Fin 16) :
    k3_pay257 v1561 (ix1 l) = v1561 (ix3 (0 : Fin 1) (0 : Fin 1) l) := by
  unfold k3_pay257
  exact cast_16 v1561 l

theorem k3_pay258_lane (v1566 : Vec F S1x1x16 .f32) (l : Fin 16) :
    k3_pay258 v1566 (ix1 l) = v1566 (ix3 (0 : Fin 1) (0 : Fin 1) l) := by
  unfold k3_pay258
  exact cast_16 v1566 l

theorem k3_pay259_lane (v1571 : Vec F S1x1x16 .f32) (l : Fin 16) :
    k3_pay259 v1571 (ix1 l) = v1571 (ix3 (0 : Fin 1) (0 : Fin 1) l) := by
  unfold k3_pay259
  exact cast_16 v1571 l

theorem k3_pay260_lane (v1576 : Vec F S1x1x16 .f32) (l : Fin 16) :
    k3_pay260 v1576 (ix1 l) = v1576 (ix3 (0 : Fin 1) (0 : Fin 1) l) := by
  unfold k3_pay260
  exact cast_16 v1576 l

theorem k3_pay261_lane (v1581 : Vec F S1x1x16 .f32) (l : Fin 16) :
    k3_pay261 v1581 (ix1 l) = v1581 (ix3 (0 : Fin 1) (0 : Fin 1) l) := by
  unfold k3_pay261
  exact cast_16 v1581 l

theorem k3_pay262_lane (v1586 : Vec F S1x1x16 .f32) (l : Fin 16) :
    k3_pay262 v1586 (ix1 l) = v1586 (ix3 (0 : Fin 1) (0 : Fin 1) l) := by
  unfold k3_pay262
  exact cast_16 v1586 l

theorem k3_pay263_lane (v1591 : Vec F S1x1x16 .f32) (l : Fin 16) :
    k3_pay263 v1591 (ix1 l) = v1591 (ix3 (0 : Fin 1) (0 : Fin 1) l) := by
  unfold k3_pay263
  exact cast_16 v1591 l

theorem k3_pay264_lane (v1596 : Vec F S1x1x16 .f32) (l : Fin 16) :
    k3_pay264 v1596 (ix1 l) = v1596 (ix3 (0 : Fin 1) (0 : Fin 1) l) := by
  unfold k3_pay264
  exact cast_16 v1596 l

theorem k3_pay265_lane (v1601 : Vec F S1x1x16 .f32) (l : Fin 16) :
    k3_pay265 v1601 (ix1 l) = v1601 (ix3 (0 : Fin 1) (0 : Fin 1) l) := by
  unfold k3_pay265
  exact cast_16 v1601 l

theorem k3_pay266_lane (v1606 : Vec F S1x1x16 .f32) (l : Fin 16) :
    k3_pay266 v1606 (ix1 l) = v1606 (ix3 (0 : Fin 1) (0 : Fin 1) l) := by
  unfold k3_pay266
  exact cast_16 v1606 l

theorem k3_pay267_lane (v1611 : Vec F S1x1x16 .f32) (l : Fin 16) :
    k3_pay267 v1611 (ix1 l) = v1611 (ix3 (0 : Fin 1) (0 : Fin 1) l) := by
  unfold k3_pay267
  exact cast_16 v1611 l

theorem k3_pay268_lane (v1487 : FVec F S16 .f32) (v1492 : FVec F S16 .f32) (l : Fin 16) :
    k3_pay268 v1487 v1492 (ix1 l) = FloatOps.addf (v1487 (ix1 l)) (v1492 (ix1 l)) := by
  unfold k3_pay268
  exact congrArg₂ FloatOps.addf (rfl) (rfl)

theorem k3_pay269_lane (v1497 : FVec F S16 .f32) (v1502 : FVec F S16 .f32) (l : Fin 16) :
    k3_pay269 v1497 v1502 (ix1 l) = FloatOps.addf (v1497 (ix1 l)) (v1502 (ix1 l)) := by
  unfold k3_pay269
  exact congrArg₂ FloatOps.addf (rfl) (rfl)

theorem k3_pay270_lane (v1507 : FVec F S16 .f32) (v1512 : FVec F S16 .f32) (l : Fin 16) :
    k3_pay270 v1507 v1512 (ix1 l) = FloatOps.addf (v1507 (ix1 l)) (v1512 (ix1 l)) := by
  unfold k3_pay270
  exact congrArg₂ FloatOps.addf (rfl) (rfl)

theorem k3_pay271_lane (v1517 : FVec F S16 .f32) (v1522 : FVec F S16 .f32) (l : Fin 16) :
    k3_pay271 v1517 v1522 (ix1 l) = FloatOps.addf (v1517 (ix1 l)) (v1522 (ix1 l)) := by
  unfold k3_pay271
  exact congrArg₂ FloatOps.addf (rfl) (rfl)

theorem k3_pay272_lane (v1527 : FVec F S16 .f32) (v1532 : FVec F S16 .f32) (l : Fin 16) :
    k3_pay272 v1527 v1532 (ix1 l) = FloatOps.addf (v1527 (ix1 l)) (v1532 (ix1 l)) := by
  unfold k3_pay272
  exact congrArg₂ FloatOps.addf (rfl) (rfl)

theorem k3_pay273_lane (v1537 : FVec F S16 .f32) (v1542 : FVec F S16 .f32) (l : Fin 16) :
    k3_pay273 v1537 v1542 (ix1 l) = FloatOps.addf (v1537 (ix1 l)) (v1542 (ix1 l)) := by
  unfold k3_pay273
  exact congrArg₂ FloatOps.addf (rfl) (rfl)

theorem k3_pay274_lane (v1547 : FVec F S16 .f32) (v1552 : FVec F S16 .f32) (l : Fin 16) :
    k3_pay274 v1547 v1552 (ix1 l) = FloatOps.addf (v1547 (ix1 l)) (v1552 (ix1 l)) := by
  unfold k3_pay274
  exact congrArg₂ FloatOps.addf (rfl) (rfl)

theorem k3_pay275_lane (v1557 : FVec F S16 .f32) (v1562 : FVec F S16 .f32) (l : Fin 16) :
    k3_pay275 v1557 v1562 (ix1 l) = FloatOps.addf (v1557 (ix1 l)) (v1562 (ix1 l)) := by
  unfold k3_pay275
  exact congrArg₂ FloatOps.addf (rfl) (rfl)

theorem k3_pay276_lane (v1567 : FVec F S16 .f32) (v1572 : FVec F S16 .f32) (l : Fin 16) :
    k3_pay276 v1567 v1572 (ix1 l) = FloatOps.addf (v1567 (ix1 l)) (v1572 (ix1 l)) := by
  unfold k3_pay276
  exact congrArg₂ FloatOps.addf (rfl) (rfl)

theorem k3_pay277_lane (v1577 : FVec F S16 .f32) (v1582 : FVec F S16 .f32) (l : Fin 16) :
    k3_pay277 v1577 v1582 (ix1 l) = FloatOps.addf (v1577 (ix1 l)) (v1582 (ix1 l)) := by
  unfold k3_pay277
  exact congrArg₂ FloatOps.addf (rfl) (rfl)

theorem k3_pay278_lane (v1587 : FVec F S16 .f32) (v1592 : FVec F S16 .f32) (l : Fin 16) :
    k3_pay278 v1587 v1592 (ix1 l) = FloatOps.addf (v1587 (ix1 l)) (v1592 (ix1 l)) := by
  unfold k3_pay278
  exact congrArg₂ FloatOps.addf (rfl) (rfl)

theorem k3_pay279_lane (v1597 : FVec F S16 .f32) (v1602 : FVec F S16 .f32) (l : Fin 16) :
    k3_pay279 v1597 v1602 (ix1 l) = FloatOps.addf (v1597 (ix1 l)) (v1602 (ix1 l)) := by
  unfold k3_pay279
  exact congrArg₂ FloatOps.addf (rfl) (rfl)

theorem k3_pay280_lane (v1607 : FVec F S16 .f32) (v1612 : FVec F S16 .f32) (l : Fin 16) :
    k3_pay280 v1607 v1612 (ix1 l) = FloatOps.addf (v1607 (ix1 l)) (v1612 (ix1 l)) := by
  unfold k3_pay280
  exact congrArg₂ FloatOps.addf (rfl) (rfl)

theorem k3_pay281_lane (v1616 : Vec F S1x1x16 .f32) (v1621 : Vec F S1x1x16 .f32) (l : Fin 16) :
    k3_pay281 v1616 v1621 (ix1 l) = FloatOps.addf (v1616 (ix3 (0 : Fin 1) (0 : Fin 1) l)) (v1621 (ix3 (0 : Fin 1) (0 : Fin 1) l)) := by
  unfold k3_pay281
  exact congrArg₂ FloatOps.addf (cast_16 v1616 l) (cast_16 v1621 l)

theorem k3_pay282_lane (v1626 : Vec F S1x1x16 .f32) (v1631 : Vec F S1x1x16 .f32) (l : Fin 16) :
    k3_pay282 v1626 v1631 (ix1 l) = FloatOps.addf (v1626 (ix3 (0 : Fin 1) (0 : Fin 1) l)) (v1631 (ix3 (0 : Fin 1) (0 : Fin 1) l)) := by
  unfold k3_pay282
  exact congrArg₂ FloatOps.addf (cast_16 v1626 l) (cast_16 v1631 l)

theorem k3_pay283_lane (v1636 : Vec F S1x1x16 .f32) (v1641 : Vec F S1x1x16 .f32) (l : Fin 16) :
    k3_pay283 v1636 v1641 (ix1 l) = FloatOps.addf (v1636 (ix3 (0 : Fin 1) (0 : Fin 1) l)) (v1641 (ix3 (0 : Fin 1) (0 : Fin 1) l)) := by
  unfold k3_pay283
  exact congrArg₂ FloatOps.addf (cast_16 v1636 l) (cast_16 v1641 l)

theorem k3_pay284_lane (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (l : Fin 16) :
    k3_pay284 v1643 v1644 v1645 v1646 v1647 v1648 v1649 v1650 v1651 v1652 v1653 v1654 v1655 v1656 v1657 v1658 (ix1 l) = FloatOps.addf (FloatOps.addf (FloatOps.addf (FloatOps.addf (v1643 (ix1 l)) (v1644 (ix1 l))) (FloatOps.addf (v1645 (ix1 l)) (v1646 (ix1 l)))) (FloatOps.addf (FloatOps.addf (v1647 (ix1 l)) (v1648 (ix1 l))) (FloatOps.addf (v1649 (ix1 l)) (v1650 (ix1 l))))) (FloatOps.addf (FloatOps.addf (FloatOps.addf (v1651 (ix1 l)) (v1652 (ix1 l))) (FloatOps.addf (v1653 (ix1 l)) (v1654 (ix1 l)))) (FloatOps.addf (FloatOps.addf (v1655 (ix1 l)) (v1656 (ix1 l))) (FloatOps.addf (v1657 (ix1 l)) (v1658 (ix1 l))))) := by
  unfold k3_pay284
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))

theorem k3_pay284_tree (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (w : Fin 32 → F .f32) (l : Fin 16)
    (h_v1643 : v1643 (ix1 l) = FloatOps.addf (w 0) (w 1))
    (h_v1644 : v1644 (ix1 l) = FloatOps.addf (w 2) (w 3))
    (h_v1645 : v1645 (ix1 l) = FloatOps.addf (w 4) (w 5))
    (h_v1646 : v1646 (ix1 l) = FloatOps.addf (w 6) (w 7))
    (h_v1647 : v1647 (ix1 l) = FloatOps.addf (w 8) (w 9))
    (h_v1648 : v1648 (ix1 l) = FloatOps.addf (w 10) (w 11))
    (h_v1649 : v1649 (ix1 l) = FloatOps.addf (w 12) (w 13))
    (h_v1650 : v1650 (ix1 l) = FloatOps.addf (w 14) (w 15))
    (h_v1651 : v1651 (ix1 l) = FloatOps.addf (w 16) (w 17))
    (h_v1652 : v1652 (ix1 l) = FloatOps.addf (w 18) (w 19))
    (h_v1653 : v1653 (ix1 l) = FloatOps.addf (w 20) (w 21))
    (h_v1654 : v1654 (ix1 l) = FloatOps.addf (w 22) (w 23))
    (h_v1655 : v1655 (ix1 l) = FloatOps.addf (w 24) (w 25))
    (h_v1656 : v1656 (ix1 l) = FloatOps.addf (w 26) (w 27))
    (h_v1657 : v1657 (ix1 l) = FloatOps.addf (w 28) (w 29))
    (h_v1658 : v1658 (ix1 l) = FloatOps.addf (w 30) (w 31)) :
    k3_pay284 v1643 v1644 v1645 v1646 v1647 v1648 v1649 v1650 v1651 v1652 v1653 v1654 v1655 v1656 v1657 v1658 (ix1 l) = tree32 w := by
  unfold k3_pay284
  exact congrArg₂ FloatOps.addf (congrArg₂ FloatOps.addf (congrArg₂ FloatOps.addf (congrArg₂ FloatOps.addf (h_v1643) (h_v1644)) (congrArg₂ FloatOps.addf (h_v1645) (h_v1646))) (congrArg₂ FloatOps.addf (congrArg₂ FloatOps.addf (h_v1647) (h_v1648)) (congrArg₂ FloatOps.addf (h_v1649) (h_v1650)))) (congrArg₂ FloatOps.addf (congrArg₂ FloatOps.addf (congrArg₂ FloatOps.addf (h_v1651) (h_v1652)) (congrArg₂ FloatOps.addf (h_v1653) (h_v1654))) (congrArg₂ FloatOps.addf (congrArg₂ FloatOps.addf (h_v1655) (h_v1656)) (congrArg₂ FloatOps.addf (h_v1657) (h_v1658))))

theorem k3_pay285_lane (v114 : Vec F S1x1x16 .f32) (l : Fin 16) :
    k3_pay285 v114 (ix1 l) = v114 (ix3 (0 : Fin 1) (0 : Fin 1) l) := by
  unfold k3_pay285
  exact cast_16 v114 l

theorem k3_pay286_lane (v119 : Vec F S1x1x16 .f32) (l : Fin 16) :
    k3_pay286 v119 (ix1 l) = v119 (ix3 (0 : Fin 1) (0 : Fin 1) l) := by
  unfold k3_pay286
  exact cast_16 v119 l

theorem k3_pay287_lane (v124 : Vec F S1x1x16 .f32) (l : Fin 16) :
    k3_pay287 v124 (ix1 l) = v124 (ix3 (0 : Fin 1) (0 : Fin 1) l) := by
  unfold k3_pay287
  exact cast_16 v124 l

theorem k3_pay288_lane (v129 : Vec F S1x1x16 .f32) (l : Fin 16) :
    k3_pay288 v129 (ix1 l) = v129 (ix3 (0 : Fin 1) (0 : Fin 1) l) := by
  unfold k3_pay288
  exact cast_16 v129 l

theorem k3_pay289_lane (v134 : Vec F S1x1x16 .f32) (l : Fin 16) :
    k3_pay289 v134 (ix1 l) = v134 (ix3 (0 : Fin 1) (0 : Fin 1) l) := by
  unfold k3_pay289
  exact cast_16 v134 l

theorem k3_pay290_lane (v139 : Vec F S1x1x16 .f32) (l : Fin 16) :
    k3_pay290 v139 (ix1 l) = v139 (ix3 (0 : Fin 1) (0 : Fin 1) l) := by
  unfold k3_pay290
  exact cast_16 v139 l

theorem k3_pay291_lane (v144 : Vec F S1x1x16 .f32) (l : Fin 16) :
    k3_pay291 v144 (ix1 l) = v144 (ix3 (0 : Fin 1) (0 : Fin 1) l) := by
  unfold k3_pay291
  exact cast_16 v144 l

theorem k3_pay292_lane (v149 : Vec F S1x1x16 .f32) (l : Fin 16) :
    k3_pay292 v149 (ix1 l) = v149 (ix3 (0 : Fin 1) (0 : Fin 1) l) := by
  unfold k3_pay292
  exact cast_16 v149 l

theorem k3_pay293_lane (v154 : Vec F S1x1x16 .f32) (l : Fin 16) :
    k3_pay293 v154 (ix1 l) = v154 (ix3 (0 : Fin 1) (0 : Fin 1) l) := by
  unfold k3_pay293
  exact cast_16 v154 l

theorem k3_pay294_lane (v159 : Vec F S1x1x16 .f32) (l : Fin 16) :
    k3_pay294 v159 (ix1 l) = v159 (ix3 (0 : Fin 1) (0 : Fin 1) l) := by
  unfold k3_pay294
  exact cast_16 v159 l

theorem k3_pay295_lane (v164 : Vec F S1x1x16 .f32) (l : Fin 16) :
    k3_pay295 v164 (ix1 l) = v164 (ix3 (0 : Fin 1) (0 : Fin 1) l) := by
  unfold k3_pay295
  exact cast_16 v164 l

theorem k3_pay296_lane (v169 : Vec F S1x1x16 .f32) (l : Fin 16) :
    k3_pay296 v169 (ix1 l) = v169 (ix3 (0 : Fin 1) (0 : Fin 1) l) := by
  unfold k3_pay296
  exact cast_16 v169 l

theorem k3_pay297_lane (v174 : Vec F S1x1x16 .f32) (l : Fin 16) :
    k3_pay297 v174 (ix1 l) = v174 (ix3 (0 : Fin 1) (0 : Fin 1) l) := by
  unfold k3_pay297
  exact cast_16 v174 l

theorem k3_pay298_lane (v179 : Vec F S1x1x16 .f32) (l : Fin 16) :
    k3_pay298 v179 (ix1 l) = v179 (ix3 (0 : Fin 1) (0 : Fin 1) l) := by
  unfold k3_pay298
  exact cast_16 v179 l

theorem k3_pay299_lane (v184 : Vec F S1x1x16 .f32) (l : Fin 16) :
    k3_pay299 v184 (ix1 l) = v184 (ix3 (0 : Fin 1) (0 : Fin 1) l) := by
  unfold k3_pay299
  exact cast_16 v184 l

theorem k3_pay300_lane (v189 : Vec F S1x1x16 .f32) (l : Fin 16) :
    k3_pay300 v189 (ix1 l) = v189 (ix3 (0 : Fin 1) (0 : Fin 1) l) := by
  unfold k3_pay300
  exact cast_16 v189 l

theorem k3_pay301_lane (v194 : Vec F S1x1x16 .f32) (l : Fin 16) :
    k3_pay301 v194 (ix1 l) = v194 (ix3 (0 : Fin 1) (0 : Fin 1) l) := by
  unfold k3_pay301
  exact cast_16 v194 l

theorem k3_pay302_lane (v199 : Vec F S1x1x16 .f32) (l : Fin 16) :
    k3_pay302 v199 (ix1 l) = v199 (ix3 (0 : Fin 1) (0 : Fin 1) l) := by
  unfold k3_pay302
  exact cast_16 v199 l

theorem k3_pay303_lane (v204 : Vec F S1x1x16 .f32) (l : Fin 16) :
    k3_pay303 v204 (ix1 l) = v204 (ix3 (0 : Fin 1) (0 : Fin 1) l) := by
  unfold k3_pay303
  exact cast_16 v204 l

theorem k3_pay304_lane (v209 : Vec F S1x1x16 .f32) (l : Fin 16) :
    k3_pay304 v209 (ix1 l) = v209 (ix3 (0 : Fin 1) (0 : Fin 1) l) := by
  unfold k3_pay304
  exact cast_16 v209 l

theorem k3_pay305_lane (v214 : Vec F S1x1x16 .f32) (l : Fin 16) :
    k3_pay305 v214 (ix1 l) = v214 (ix3 (0 : Fin 1) (0 : Fin 1) l) := by
  unfold k3_pay305
  exact cast_16 v214 l

theorem k3_pay306_lane (v219 : Vec F S1x1x16 .f32) (l : Fin 16) :
    k3_pay306 v219 (ix1 l) = v219 (ix3 (0 : Fin 1) (0 : Fin 1) l) := by
  unfold k3_pay306
  exact cast_16 v219 l

theorem k3_pay307_lane (v224 : Vec F S1x1x16 .f32) (l : Fin 16) :
    k3_pay307 v224 (ix1 l) = v224 (ix3 (0 : Fin 1) (0 : Fin 1) l) := by
  unfold k3_pay307
  exact cast_16 v224 l

theorem k3_pay308_lane (v229 : Vec F S1x1x16 .f32) (l : Fin 16) :
    k3_pay308 v229 (ix1 l) = v229 (ix3 (0 : Fin 1) (0 : Fin 1) l) := by
  unfold k3_pay308
  exact cast_16 v229 l

theorem k3_pay309_lane (v234 : Vec F S1x1x16 .f32) (l : Fin 16) :
    k3_pay309 v234 (ix1 l) = v234 (ix3 (0 : Fin 1) (0 : Fin 1) l) := by
  unfold k3_pay309
  exact cast_16 v234 l

theorem k3_pay310_lane (v239 : Vec F S1x1x16 .f32) (l : Fin 16) :
    k3_pay310 v239 (ix1 l) = v239 (ix3 (0 : Fin 1) (0 : Fin 1) l) := by
  unfold k3_pay310
  exact cast_16 v239 l

theorem k3_pay311_lane (v244 : Vec F S1x1x16 .f32) (l : Fin 16) :
    k3_pay311 v244 (ix1 l) = v244 (ix3 (0 : Fin 1) (0 : Fin 1) l) := by
  unfold k3_pay311
  exact cast_16 v244 l

theorem k3_pay312_lane (v249 : Vec F S1x1x16 .f32) (l : Fin 16) :
    k3_pay312 v249 (ix1 l) = v249 (ix3 (0 : Fin 1) (0 : Fin 1) l) := by
  unfold k3_pay312
  exact cast_16 v249 l

theorem k3_pay313_lane (v254 : Vec F S1x1x16 .f32) (l : Fin 16) :
    k3_pay313 v254 (ix1 l) = v254 (ix3 (0 : Fin 1) (0 : Fin 1) l) := by
  unfold k3_pay313
  exact cast_16 v254 l

theorem k3_pay314_lane (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (l : Fin 16) :
    k3_pay314 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = FloatOps.addf (FloatOps.addf (FloatOps.addf (FloatOps.addf (FloatOps.addf (v115 (ix1 l)) (v120 (ix1 l))) (FloatOps.addf (v125 (ix1 l)) (v130 (ix1 l)))) (FloatOps.addf (FloatOps.addf (v135 (ix1 l)) (v140 (ix1 l))) (FloatOps.addf (v145 (ix1 l)) (v150 (ix1 l))))) (FloatOps.addf (FloatOps.addf (FloatOps.addf (v155 (ix1 l)) (v160 (ix1 l))) (FloatOps.addf (v165 (ix1 l)) (v170 (ix1 l)))) (FloatOps.addf (FloatOps.addf (v175 (ix1 l)) (v180 (ix1 l))) (FloatOps.addf (v185 (ix1 l)) (v190 (ix1 l)))))) (FloatOps.addf (FloatOps.addf (FloatOps.addf (FloatOps.addf (v195 (ix1 l)) (v200 (ix1 l))) (FloatOps.addf (v205 (ix1 l)) (v210 (ix1 l)))) (FloatOps.addf (FloatOps.addf (v215 (ix1 l)) (v220 (ix1 l))) (FloatOps.addf (v225 (ix1 l)) (v230 (ix1 l))))) (FloatOps.addf (FloatOps.addf (FloatOps.addf (v235 (ix1 l)) (v240 (ix1 l))) (FloatOps.addf (v245 (ix1 l)) (v250 (ix1 l)))) (FloatOps.addf (FloatOps.addf (v255 (ix1 l)) (v259 (ix3 (0 : Fin 1) (0 : Fin 1) l))) (FloatOps.addf (v264 (ix3 (0 : Fin 1) (0 : Fin 1) l)) (v269 (ix3 (0 : Fin 1) (0 : Fin 1) l)))))) := by
  unfold k3_pay314
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (cast_16 v259 l)) (congrArg₂ FloatOps.addf (cast_16 v264 l) (cast_16 v269 l)))))

theorem k3_pay314_tree (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (w : Fin 32 → F .f32) (l : Fin 16)
    (h_v115 : v115 (ix1 l) = w 0)
    (h_v120 : v120 (ix1 l) = w 1)
    (h_v125 : v125 (ix1 l) = w 2)
    (h_v130 : v130 (ix1 l) = w 3)
    (h_v135 : v135 (ix1 l) = w 4)
    (h_v140 : v140 (ix1 l) = w 5)
    (h_v145 : v145 (ix1 l) = w 6)
    (h_v150 : v150 (ix1 l) = w 7)
    (h_v155 : v155 (ix1 l) = w 8)
    (h_v160 : v160 (ix1 l) = w 9)
    (h_v165 : v165 (ix1 l) = w 10)
    (h_v170 : v170 (ix1 l) = w 11)
    (h_v175 : v175 (ix1 l) = w 12)
    (h_v180 : v180 (ix1 l) = w 13)
    (h_v185 : v185 (ix1 l) = w 14)
    (h_v190 : v190 (ix1 l) = w 15)
    (h_v195 : v195 (ix1 l) = w 16)
    (h_v200 : v200 (ix1 l) = w 17)
    (h_v205 : v205 (ix1 l) = w 18)
    (h_v210 : v210 (ix1 l) = w 19)
    (h_v215 : v215 (ix1 l) = w 20)
    (h_v220 : v220 (ix1 l) = w 21)
    (h_v225 : v225 (ix1 l) = w 22)
    (h_v230 : v230 (ix1 l) = w 23)
    (h_v235 : v235 (ix1 l) = w 24)
    (h_v240 : v240 (ix1 l) = w 25)
    (h_v245 : v245 (ix1 l) = w 26)
    (h_v250 : v250 (ix1 l) = w 27)
    (h_v255 : v255 (ix1 l) = w 28)
    (h_v259 : v259 (ix3 (0 : Fin 1) (0 : Fin 1) l) = w 29)
    (h_v264 : v264 (ix3 (0 : Fin 1) (0 : Fin 1) l) = w 30)
    (h_v269 : v269 (ix3 (0 : Fin 1) (0 : Fin 1) l) = w 31) :
    k3_pay314 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = tree32 w := by
  unfold k3_pay314
  refine (cast_116 _ l).trans ?_
  exact congrArg₂ FloatOps.addf (congrArg₂ FloatOps.addf (congrArg₂ FloatOps.addf (congrArg₂ FloatOps.addf (congrArg₂ FloatOps.addf (h_v115) (h_v120)) (congrArg₂ FloatOps.addf (h_v125) (h_v130))) (congrArg₂ FloatOps.addf (congrArg₂ FloatOps.addf (h_v135) (h_v140)) (congrArg₂ FloatOps.addf (h_v145) (h_v150)))) (congrArg₂ FloatOps.addf (congrArg₂ FloatOps.addf (congrArg₂ FloatOps.addf (h_v155) (h_v160)) (congrArg₂ FloatOps.addf (h_v165) (h_v170))) (congrArg₂ FloatOps.addf (congrArg₂ FloatOps.addf (h_v175) (h_v180)) (congrArg₂ FloatOps.addf (h_v185) (h_v190))))) (congrArg₂ FloatOps.addf (congrArg₂ FloatOps.addf (congrArg₂ FloatOps.addf (congrArg₂ FloatOps.addf (h_v195) (h_v200)) (congrArg₂ FloatOps.addf (h_v205) (h_v210))) (congrArg₂ FloatOps.addf (congrArg₂ FloatOps.addf (h_v215) (h_v220)) (congrArg₂ FloatOps.addf (h_v225) (h_v230)))) (congrArg₂ FloatOps.addf (congrArg₂ FloatOps.addf (congrArg₂ FloatOps.addf (h_v235) (h_v240)) (congrArg₂ FloatOps.addf (h_v245) (h_v250))) (congrArg₂ FloatOps.addf (congrArg₂ FloatOps.addf (h_v255) ((cast_16 v259 l).trans h_v259)) (congrArg₂ FloatOps.addf ((cast_16 v264 l).trans h_v264) ((cast_16 v269 l).trans h_v269)))))

theorem k3_pay315_lane (v310 : Vec F S1x1x16 .f32) (l : Fin 16) :
    k3_pay315 v310 (ix1 l) = v310 (ix3 (0 : Fin 1) (0 : Fin 1) l) := by
  unfold k3_pay315
  exact cast_16 v310 l

theorem k3_pay316_lane (v315 : Vec F S1x1x16 .f32) (l : Fin 16) :
    k3_pay316 v315 (ix1 l) = v315 (ix3 (0 : Fin 1) (0 : Fin 1) l) := by
  unfold k3_pay316
  exact cast_16 v315 l

theorem k3_pay317_lane (v320 : Vec F S1x1x16 .f32) (l : Fin 16) :
    k3_pay317 v320 (ix1 l) = v320 (ix3 (0 : Fin 1) (0 : Fin 1) l) := by
  unfold k3_pay317
  exact cast_16 v320 l

theorem k3_pay318_lane (v325 : Vec F S1x1x16 .f32) (l : Fin 16) :
    k3_pay318 v325 (ix1 l) = v325 (ix3 (0 : Fin 1) (0 : Fin 1) l) := by
  unfold k3_pay318
  exact cast_16 v325 l

theorem k3_pay319_lane (v330 : Vec F S1x1x16 .f32) (l : Fin 16) :
    k3_pay319 v330 (ix1 l) = v330 (ix3 (0 : Fin 1) (0 : Fin 1) l) := by
  unfold k3_pay319
  exact cast_16 v330 l

theorem k3_pay320_lane (v335 : Vec F S1x1x16 .f32) (l : Fin 16) :
    k3_pay320 v335 (ix1 l) = v335 (ix3 (0 : Fin 1) (0 : Fin 1) l) := by
  unfold k3_pay320
  exact cast_16 v335 l

theorem k3_pay321_lane (v340 : Vec F S1x1x16 .f32) (l : Fin 16) :
    k3_pay321 v340 (ix1 l) = v340 (ix3 (0 : Fin 1) (0 : Fin 1) l) := by
  unfold k3_pay321
  exact cast_16 v340 l

theorem k3_pay322_lane (v345 : Vec F S1x1x16 .f32) (l : Fin 16) :
    k3_pay322 v345 (ix1 l) = v345 (ix3 (0 : Fin 1) (0 : Fin 1) l) := by
  unfold k3_pay322
  exact cast_16 v345 l

theorem k3_pay323_lane (v350 : Vec F S1x1x16 .f32) (l : Fin 16) :
    k3_pay323 v350 (ix1 l) = v350 (ix3 (0 : Fin 1) (0 : Fin 1) l) := by
  unfold k3_pay323
  exact cast_16 v350 l

theorem k3_pay324_lane (v355 : Vec F S1x1x16 .f32) (l : Fin 16) :
    k3_pay324 v355 (ix1 l) = v355 (ix3 (0 : Fin 1) (0 : Fin 1) l) := by
  unfold k3_pay324
  exact cast_16 v355 l

theorem k3_pay325_lane (v360 : Vec F S1x1x16 .f32) (l : Fin 16) :
    k3_pay325 v360 (ix1 l) = v360 (ix3 (0 : Fin 1) (0 : Fin 1) l) := by
  unfold k3_pay325
  exact cast_16 v360 l

theorem k3_pay326_lane (v365 : Vec F S1x1x16 .f32) (l : Fin 16) :
    k3_pay326 v365 (ix1 l) = v365 (ix3 (0 : Fin 1) (0 : Fin 1) l) := by
  unfold k3_pay326
  exact cast_16 v365 l

theorem k3_pay327_lane (v370 : Vec F S1x1x16 .f32) (l : Fin 16) :
    k3_pay327 v370 (ix1 l) = v370 (ix3 (0 : Fin 1) (0 : Fin 1) l) := by
  unfold k3_pay327
  exact cast_16 v370 l

theorem k3_pay328_lane (v375 : Vec F S1x1x16 .f32) (l : Fin 16) :
    k3_pay328 v375 (ix1 l) = v375 (ix3 (0 : Fin 1) (0 : Fin 1) l) := by
  unfold k3_pay328
  exact cast_16 v375 l

theorem k3_pay329_lane (v380 : Vec F S1x1x16 .f32) (l : Fin 16) :
    k3_pay329 v380 (ix1 l) = v380 (ix3 (0 : Fin 1) (0 : Fin 1) l) := by
  unfold k3_pay329
  exact cast_16 v380 l

theorem k3_pay330_lane (v385 : Vec F S1x1x16 .f32) (l : Fin 16) :
    k3_pay330 v385 (ix1 l) = v385 (ix3 (0 : Fin 1) (0 : Fin 1) l) := by
  unfold k3_pay330
  exact cast_16 v385 l

theorem k3_pay331_lane (v390 : Vec F S1x1x16 .f32) (l : Fin 16) :
    k3_pay331 v390 (ix1 l) = v390 (ix3 (0 : Fin 1) (0 : Fin 1) l) := by
  unfold k3_pay331
  exact cast_16 v390 l

theorem k3_pay332_lane (v395 : Vec F S1x1x16 .f32) (l : Fin 16) :
    k3_pay332 v395 (ix1 l) = v395 (ix3 (0 : Fin 1) (0 : Fin 1) l) := by
  unfold k3_pay332
  exact cast_16 v395 l

theorem k3_pay333_lane (v400 : Vec F S1x1x16 .f32) (l : Fin 16) :
    k3_pay333 v400 (ix1 l) = v400 (ix3 (0 : Fin 1) (0 : Fin 1) l) := by
  unfold k3_pay333
  exact cast_16 v400 l

theorem k3_pay334_lane (v405 : Vec F S1x1x16 .f32) (l : Fin 16) :
    k3_pay334 v405 (ix1 l) = v405 (ix3 (0 : Fin 1) (0 : Fin 1) l) := by
  unfold k3_pay334
  exact cast_16 v405 l

theorem k3_pay335_lane (v410 : Vec F S1x1x16 .f32) (l : Fin 16) :
    k3_pay335 v410 (ix1 l) = v410 (ix3 (0 : Fin 1) (0 : Fin 1) l) := by
  unfold k3_pay335
  exact cast_16 v410 l

theorem k3_pay336_lane (v415 : Vec F S1x1x16 .f32) (l : Fin 16) :
    k3_pay336 v415 (ix1 l) = v415 (ix3 (0 : Fin 1) (0 : Fin 1) l) := by
  unfold k3_pay336
  exact cast_16 v415 l

theorem k3_pay337_lane (v420 : Vec F S1x1x16 .f32) (l : Fin 16) :
    k3_pay337 v420 (ix1 l) = v420 (ix3 (0 : Fin 1) (0 : Fin 1) l) := by
  unfold k3_pay337
  exact cast_16 v420 l

theorem k3_pay338_lane (v425 : Vec F S1x1x16 .f32) (l : Fin 16) :
    k3_pay338 v425 (ix1 l) = v425 (ix3 (0 : Fin 1) (0 : Fin 1) l) := by
  unfold k3_pay338
  exact cast_16 v425 l

theorem k3_pay339_lane (v430 : Vec F S1x1x16 .f32) (l : Fin 16) :
    k3_pay339 v430 (ix1 l) = v430 (ix3 (0 : Fin 1) (0 : Fin 1) l) := by
  unfold k3_pay339
  exact cast_16 v430 l

theorem k3_pay340_lane (v435 : Vec F S1x1x16 .f32) (l : Fin 16) :
    k3_pay340 v435 (ix1 l) = v435 (ix3 (0 : Fin 1) (0 : Fin 1) l) := by
  unfold k3_pay340
  exact cast_16 v435 l

theorem k3_pay341_lane (v440 : Vec F S1x1x16 .f32) (l : Fin 16) :
    k3_pay341 v440 (ix1 l) = v440 (ix3 (0 : Fin 1) (0 : Fin 1) l) := by
  unfold k3_pay341
  exact cast_16 v440 l

theorem k3_pay342_lane (v445 : Vec F S1x1x16 .f32) (l : Fin 16) :
    k3_pay342 v445 (ix1 l) = v445 (ix3 (0 : Fin 1) (0 : Fin 1) l) := by
  unfold k3_pay342
  exact cast_16 v445 l

theorem k3_pay343_lane (v450 : Vec F S1x1x16 .f32) (l : Fin 16) :
    k3_pay343 v450 (ix1 l) = v450 (ix3 (0 : Fin 1) (0 : Fin 1) l) := by
  unfold k3_pay343
  exact cast_16 v450 l

theorem k3_pay344_lane (v455 : Vec F S1x1x16 .f32) (l : Fin 16) :
    k3_pay344 v455 (ix1 l) = v455 (ix3 (0 : Fin 1) (0 : Fin 1) l) := by
  unfold k3_pay344
  exact cast_16 v455 l

theorem k3_pay345_lane (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (l : Fin 16) :
    k3_pay345 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = FloatOps.addf (FloatOps.addf (FloatOps.addf (FloatOps.addf (FloatOps.addf (v311 (ix1 l)) (v316 (ix1 l))) (FloatOps.addf (v321 (ix1 l)) (v326 (ix1 l)))) (FloatOps.addf (FloatOps.addf (v331 (ix1 l)) (v336 (ix1 l))) (FloatOps.addf (v341 (ix1 l)) (v346 (ix1 l))))) (FloatOps.addf (FloatOps.addf (FloatOps.addf (v351 (ix1 l)) (v356 (ix1 l))) (FloatOps.addf (v361 (ix1 l)) (v366 (ix1 l)))) (FloatOps.addf (FloatOps.addf (v371 (ix1 l)) (v376 (ix1 l))) (FloatOps.addf (v381 (ix1 l)) (v386 (ix1 l)))))) (FloatOps.addf (FloatOps.addf (FloatOps.addf (FloatOps.addf (v391 (ix1 l)) (v396 (ix1 l))) (FloatOps.addf (v401 (ix1 l)) (v406 (ix1 l)))) (FloatOps.addf (FloatOps.addf (v411 (ix1 l)) (v416 (ix1 l))) (FloatOps.addf (v421 (ix1 l)) (v426 (ix1 l))))) (FloatOps.addf (FloatOps.addf (FloatOps.addf (v431 (ix1 l)) (v436 (ix1 l))) (FloatOps.addf (v441 (ix1 l)) (v446 (ix1 l)))) (FloatOps.addf (FloatOps.addf (v451 (ix1 l)) (v456 (ix1 l))) (FloatOps.addf (v460 (ix3 (0 : Fin 1) (0 : Fin 1) l)) (v465 (ix3 (0 : Fin 1) (0 : Fin 1) l)))))) := by
  unfold k3_pay345
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v460 l) (cast_16 v465 l)))))

theorem k3_pay345_tree (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (w : Fin 32 → F .f32) (l : Fin 16)
    (h_v311 : v311 (ix1 l) = w 0)
    (h_v316 : v316 (ix1 l) = w 1)
    (h_v321 : v321 (ix1 l) = w 2)
    (h_v326 : v326 (ix1 l) = w 3)
    (h_v331 : v331 (ix1 l) = w 4)
    (h_v336 : v336 (ix1 l) = w 5)
    (h_v341 : v341 (ix1 l) = w 6)
    (h_v346 : v346 (ix1 l) = w 7)
    (h_v351 : v351 (ix1 l) = w 8)
    (h_v356 : v356 (ix1 l) = w 9)
    (h_v361 : v361 (ix1 l) = w 10)
    (h_v366 : v366 (ix1 l) = w 11)
    (h_v371 : v371 (ix1 l) = w 12)
    (h_v376 : v376 (ix1 l) = w 13)
    (h_v381 : v381 (ix1 l) = w 14)
    (h_v386 : v386 (ix1 l) = w 15)
    (h_v391 : v391 (ix1 l) = w 16)
    (h_v396 : v396 (ix1 l) = w 17)
    (h_v401 : v401 (ix1 l) = w 18)
    (h_v406 : v406 (ix1 l) = w 19)
    (h_v411 : v411 (ix1 l) = w 20)
    (h_v416 : v416 (ix1 l) = w 21)
    (h_v421 : v421 (ix1 l) = w 22)
    (h_v426 : v426 (ix1 l) = w 23)
    (h_v431 : v431 (ix1 l) = w 24)
    (h_v436 : v436 (ix1 l) = w 25)
    (h_v441 : v441 (ix1 l) = w 26)
    (h_v446 : v446 (ix1 l) = w 27)
    (h_v451 : v451 (ix1 l) = w 28)
    (h_v456 : v456 (ix1 l) = w 29)
    (h_v460 : v460 (ix3 (0 : Fin 1) (0 : Fin 1) l) = w 30)
    (h_v465 : v465 (ix3 (0 : Fin 1) (0 : Fin 1) l) = w 31) :
    k3_pay345 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = tree32 w := by
  unfold k3_pay345
  refine (cast_116 _ l).trans ?_
  exact congrArg₂ FloatOps.addf (congrArg₂ FloatOps.addf (congrArg₂ FloatOps.addf (congrArg₂ FloatOps.addf (congrArg₂ FloatOps.addf (h_v311) (h_v316)) (congrArg₂ FloatOps.addf (h_v321) (h_v326))) (congrArg₂ FloatOps.addf (congrArg₂ FloatOps.addf (h_v331) (h_v336)) (congrArg₂ FloatOps.addf (h_v341) (h_v346)))) (congrArg₂ FloatOps.addf (congrArg₂ FloatOps.addf (congrArg₂ FloatOps.addf (h_v351) (h_v356)) (congrArg₂ FloatOps.addf (h_v361) (h_v366))) (congrArg₂ FloatOps.addf (congrArg₂ FloatOps.addf (h_v371) (h_v376)) (congrArg₂ FloatOps.addf (h_v381) (h_v386))))) (congrArg₂ FloatOps.addf (congrArg₂ FloatOps.addf (congrArg₂ FloatOps.addf (congrArg₂ FloatOps.addf (h_v391) (h_v396)) (congrArg₂ FloatOps.addf (h_v401) (h_v406))) (congrArg₂ FloatOps.addf (congrArg₂ FloatOps.addf (h_v411) (h_v416)) (congrArg₂ FloatOps.addf (h_v421) (h_v426)))) (congrArg₂ FloatOps.addf (congrArg₂ FloatOps.addf (congrArg₂ FloatOps.addf (h_v431) (h_v436)) (congrArg₂ FloatOps.addf (h_v441) (h_v446))) (congrArg₂ FloatOps.addf (congrArg₂ FloatOps.addf (h_v451) (h_v456)) (congrArg₂ FloatOps.addf ((cast_16 v460 l).trans h_v460) ((cast_16 v465 l).trans h_v465)))))

theorem k3_pay346_lane (v506 : Vec F S1x1x16 .f32) (l : Fin 16) :
    k3_pay346 v506 (ix1 l) = v506 (ix3 (0 : Fin 1) (0 : Fin 1) l) := by
  unfold k3_pay346
  exact cast_16 v506 l

theorem k3_pay347_lane (v511 : Vec F S1x1x16 .f32) (l : Fin 16) :
    k3_pay347 v511 (ix1 l) = v511 (ix3 (0 : Fin 1) (0 : Fin 1) l) := by
  unfold k3_pay347
  exact cast_16 v511 l

theorem k3_pay348_lane (v516 : Vec F S1x1x16 .f32) (l : Fin 16) :
    k3_pay348 v516 (ix1 l) = v516 (ix3 (0 : Fin 1) (0 : Fin 1) l) := by
  unfold k3_pay348
  exact cast_16 v516 l

theorem k3_pay349_lane (v521 : Vec F S1x1x16 .f32) (l : Fin 16) :
    k3_pay349 v521 (ix1 l) = v521 (ix3 (0 : Fin 1) (0 : Fin 1) l) := by
  unfold k3_pay349
  exact cast_16 v521 l

theorem k3_pay350_lane (v526 : Vec F S1x1x16 .f32) (l : Fin 16) :
    k3_pay350 v526 (ix1 l) = v526 (ix3 (0 : Fin 1) (0 : Fin 1) l) := by
  unfold k3_pay350
  exact cast_16 v526 l

theorem k3_pay351_lane (v531 : Vec F S1x1x16 .f32) (l : Fin 16) :
    k3_pay351 v531 (ix1 l) = v531 (ix3 (0 : Fin 1) (0 : Fin 1) l) := by
  unfold k3_pay351
  exact cast_16 v531 l

theorem k3_pay352_lane (v536 : Vec F S1x1x16 .f32) (l : Fin 16) :
    k3_pay352 v536 (ix1 l) = v536 (ix3 (0 : Fin 1) (0 : Fin 1) l) := by
  unfold k3_pay352
  exact cast_16 v536 l

theorem k3_pay353_lane (v541 : Vec F S1x1x16 .f32) (l : Fin 16) :
    k3_pay353 v541 (ix1 l) = v541 (ix3 (0 : Fin 1) (0 : Fin 1) l) := by
  unfold k3_pay353
  exact cast_16 v541 l

theorem k3_pay354_lane (v546 : Vec F S1x1x16 .f32) (l : Fin 16) :
    k3_pay354 v546 (ix1 l) = v546 (ix3 (0 : Fin 1) (0 : Fin 1) l) := by
  unfold k3_pay354
  exact cast_16 v546 l

theorem k3_pay355_lane (v551 : Vec F S1x1x16 .f32) (l : Fin 16) :
    k3_pay355 v551 (ix1 l) = v551 (ix3 (0 : Fin 1) (0 : Fin 1) l) := by
  unfold k3_pay355
  exact cast_16 v551 l

theorem k3_pay356_lane (v556 : Vec F S1x1x16 .f32) (l : Fin 16) :
    k3_pay356 v556 (ix1 l) = v556 (ix3 (0 : Fin 1) (0 : Fin 1) l) := by
  unfold k3_pay356
  exact cast_16 v556 l

theorem k3_pay357_lane (v561 : Vec F S1x1x16 .f32) (l : Fin 16) :
    k3_pay357 v561 (ix1 l) = v561 (ix3 (0 : Fin 1) (0 : Fin 1) l) := by
  unfold k3_pay357
  exact cast_16 v561 l

theorem k3_pay358_lane (v566 : Vec F S1x1x16 .f32) (l : Fin 16) :
    k3_pay358 v566 (ix1 l) = v566 (ix3 (0 : Fin 1) (0 : Fin 1) l) := by
  unfold k3_pay358
  exact cast_16 v566 l

theorem k3_pay359_lane (v571 : Vec F S1x1x16 .f32) (l : Fin 16) :
    k3_pay359 v571 (ix1 l) = v571 (ix3 (0 : Fin 1) (0 : Fin 1) l) := by
  unfold k3_pay359
  exact cast_16 v571 l

theorem k3_pay360_lane (v576 : Vec F S1x1x16 .f32) (l : Fin 16) :
    k3_pay360 v576 (ix1 l) = v576 (ix3 (0 : Fin 1) (0 : Fin 1) l) := by
  unfold k3_pay360
  exact cast_16 v576 l

theorem k3_pay361_lane (v581 : Vec F S1x1x16 .f32) (l : Fin 16) :
    k3_pay361 v581 (ix1 l) = v581 (ix3 (0 : Fin 1) (0 : Fin 1) l) := by
  unfold k3_pay361
  exact cast_16 v581 l

theorem k3_pay362_lane (v586 : Vec F S1x1x16 .f32) (l : Fin 16) :
    k3_pay362 v586 (ix1 l) = v586 (ix3 (0 : Fin 1) (0 : Fin 1) l) := by
  unfold k3_pay362
  exact cast_16 v586 l

theorem k3_pay363_lane (v591 : Vec F S1x1x16 .f32) (l : Fin 16) :
    k3_pay363 v591 (ix1 l) = v591 (ix3 (0 : Fin 1) (0 : Fin 1) l) := by
  unfold k3_pay363
  exact cast_16 v591 l

theorem k3_pay364_lane (v596 : Vec F S1x1x16 .f32) (l : Fin 16) :
    k3_pay364 v596 (ix1 l) = v596 (ix3 (0 : Fin 1) (0 : Fin 1) l) := by
  unfold k3_pay364
  exact cast_16 v596 l

theorem k3_pay365_lane (v601 : Vec F S1x1x16 .f32) (l : Fin 16) :
    k3_pay365 v601 (ix1 l) = v601 (ix3 (0 : Fin 1) (0 : Fin 1) l) := by
  unfold k3_pay365
  exact cast_16 v601 l

theorem k3_pay366_lane (v606 : Vec F S1x1x16 .f32) (l : Fin 16) :
    k3_pay366 v606 (ix1 l) = v606 (ix3 (0 : Fin 1) (0 : Fin 1) l) := by
  unfold k3_pay366
  exact cast_16 v606 l

theorem k3_pay367_lane (v611 : Vec F S1x1x16 .f32) (l : Fin 16) :
    k3_pay367 v611 (ix1 l) = v611 (ix3 (0 : Fin 1) (0 : Fin 1) l) := by
  unfold k3_pay367
  exact cast_16 v611 l

theorem k3_pay368_lane (v616 : Vec F S1x1x16 .f32) (l : Fin 16) :
    k3_pay368 v616 (ix1 l) = v616 (ix3 (0 : Fin 1) (0 : Fin 1) l) := by
  unfold k3_pay368
  exact cast_16 v616 l

theorem k3_pay369_lane (v621 : Vec F S1x1x16 .f32) (l : Fin 16) :
    k3_pay369 v621 (ix1 l) = v621 (ix3 (0 : Fin 1) (0 : Fin 1) l) := by
  unfold k3_pay369
  exact cast_16 v621 l

theorem k3_pay370_lane (v626 : Vec F S1x1x16 .f32) (l : Fin 16) :
    k3_pay370 v626 (ix1 l) = v626 (ix3 (0 : Fin 1) (0 : Fin 1) l) := by
  unfold k3_pay370
  exact cast_16 v626 l

theorem k3_pay371_lane (v631 : Vec F S1x1x16 .f32) (l : Fin 16) :
    k3_pay371 v631 (ix1 l) = v631 (ix3 (0 : Fin 1) (0 : Fin 1) l) := by
  unfold k3_pay371
  exact cast_16 v631 l

theorem k3_pay372_lane (v636 : Vec F S1x1x16 .f32) (l : Fin 16) :
    k3_pay372 v636 (ix1 l) = v636 (ix3 (0 : Fin 1) (0 : Fin 1) l) := by
  unfold k3_pay372
  exact cast_16 v636 l

theorem k3_pay373_lane (v641 : Vec F S1x1x16 .f32) (l : Fin 16) :
    k3_pay373 v641 (ix1 l) = v641 (ix3 (0 : Fin 1) (0 : Fin 1) l) := by
  unfold k3_pay373
  exact cast_16 v641 l

theorem k3_pay374_lane (v646 : Vec F S1x1x16 .f32) (l : Fin 16) :
    k3_pay374 v646 (ix1 l) = v646 (ix3 (0 : Fin 1) (0 : Fin 1) l) := by
  unfold k3_pay374
  exact cast_16 v646 l

theorem k3_pay375_lane (v651 : Vec F S1x1x16 .f32) (l : Fin 16) :
    k3_pay375 v651 (ix1 l) = v651 (ix3 (0 : Fin 1) (0 : Fin 1) l) := by
  unfold k3_pay375
  exact cast_16 v651 l

theorem k3_pay376_lane (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (l : Fin 16) :
    k3_pay376 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = FloatOps.addf (FloatOps.addf (FloatOps.addf (FloatOps.addf (FloatOps.addf (v507 (ix1 l)) (v512 (ix1 l))) (FloatOps.addf (v517 (ix1 l)) (v522 (ix1 l)))) (FloatOps.addf (FloatOps.addf (v527 (ix1 l)) (v532 (ix1 l))) (FloatOps.addf (v537 (ix1 l)) (v542 (ix1 l))))) (FloatOps.addf (FloatOps.addf (FloatOps.addf (v547 (ix1 l)) (v552 (ix1 l))) (FloatOps.addf (v557 (ix1 l)) (v562 (ix1 l)))) (FloatOps.addf (FloatOps.addf (v567 (ix1 l)) (v572 (ix1 l))) (FloatOps.addf (v577 (ix1 l)) (v582 (ix1 l)))))) (FloatOps.addf (FloatOps.addf (FloatOps.addf (FloatOps.addf (v587 (ix1 l)) (v592 (ix1 l))) (FloatOps.addf (v597 (ix1 l)) (v602 (ix1 l)))) (FloatOps.addf (FloatOps.addf (v607 (ix1 l)) (v612 (ix1 l))) (FloatOps.addf (v617 (ix1 l)) (v622 (ix1 l))))) (FloatOps.addf (FloatOps.addf (FloatOps.addf (v627 (ix1 l)) (v632 (ix1 l))) (FloatOps.addf (v637 (ix1 l)) (v642 (ix1 l)))) (FloatOps.addf (FloatOps.addf (v647 (ix1 l)) (v652 (ix1 l))) (FloatOps.addf (v656 (ix3 (0 : Fin 1) (0 : Fin 1) l)) (v661 (ix3 (0 : Fin 1) (0 : Fin 1) l)))))) := by
  unfold k3_pay376
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v656 l) (cast_16 v661 l)))))

theorem k3_pay376_tree (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (w : Fin 32 → F .f32) (l : Fin 16)
    (h_v507 : v507 (ix1 l) = w 0)
    (h_v512 : v512 (ix1 l) = w 1)
    (h_v517 : v517 (ix1 l) = w 2)
    (h_v522 : v522 (ix1 l) = w 3)
    (h_v527 : v527 (ix1 l) = w 4)
    (h_v532 : v532 (ix1 l) = w 5)
    (h_v537 : v537 (ix1 l) = w 6)
    (h_v542 : v542 (ix1 l) = w 7)
    (h_v547 : v547 (ix1 l) = w 8)
    (h_v552 : v552 (ix1 l) = w 9)
    (h_v557 : v557 (ix1 l) = w 10)
    (h_v562 : v562 (ix1 l) = w 11)
    (h_v567 : v567 (ix1 l) = w 12)
    (h_v572 : v572 (ix1 l) = w 13)
    (h_v577 : v577 (ix1 l) = w 14)
    (h_v582 : v582 (ix1 l) = w 15)
    (h_v587 : v587 (ix1 l) = w 16)
    (h_v592 : v592 (ix1 l) = w 17)
    (h_v597 : v597 (ix1 l) = w 18)
    (h_v602 : v602 (ix1 l) = w 19)
    (h_v607 : v607 (ix1 l) = w 20)
    (h_v612 : v612 (ix1 l) = w 21)
    (h_v617 : v617 (ix1 l) = w 22)
    (h_v622 : v622 (ix1 l) = w 23)
    (h_v627 : v627 (ix1 l) = w 24)
    (h_v632 : v632 (ix1 l) = w 25)
    (h_v637 : v637 (ix1 l) = w 26)
    (h_v642 : v642 (ix1 l) = w 27)
    (h_v647 : v647 (ix1 l) = w 28)
    (h_v652 : v652 (ix1 l) = w 29)
    (h_v656 : v656 (ix3 (0 : Fin 1) (0 : Fin 1) l) = w 30)
    (h_v661 : v661 (ix3 (0 : Fin 1) (0 : Fin 1) l) = w 31) :
    k3_pay376 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = tree32 w := by
  unfold k3_pay376
  refine (cast_116 _ l).trans ?_
  exact congrArg₂ FloatOps.addf (congrArg₂ FloatOps.addf (congrArg₂ FloatOps.addf (congrArg₂ FloatOps.addf (congrArg₂ FloatOps.addf (h_v507) (h_v512)) (congrArg₂ FloatOps.addf (h_v517) (h_v522))) (congrArg₂ FloatOps.addf (congrArg₂ FloatOps.addf (h_v527) (h_v532)) (congrArg₂ FloatOps.addf (h_v537) (h_v542)))) (congrArg₂ FloatOps.addf (congrArg₂ FloatOps.addf (congrArg₂ FloatOps.addf (h_v547) (h_v552)) (congrArg₂ FloatOps.addf (h_v557) (h_v562))) (congrArg₂ FloatOps.addf (congrArg₂ FloatOps.addf (h_v567) (h_v572)) (congrArg₂ FloatOps.addf (h_v577) (h_v582))))) (congrArg₂ FloatOps.addf (congrArg₂ FloatOps.addf (congrArg₂ FloatOps.addf (congrArg₂ FloatOps.addf (h_v587) (h_v592)) (congrArg₂ FloatOps.addf (h_v597) (h_v602))) (congrArg₂ FloatOps.addf (congrArg₂ FloatOps.addf (h_v607) (h_v612)) (congrArg₂ FloatOps.addf (h_v617) (h_v622)))) (congrArg₂ FloatOps.addf (congrArg₂ FloatOps.addf (congrArg₂ FloatOps.addf (h_v627) (h_v632)) (congrArg₂ FloatOps.addf (h_v637) (h_v642))) (congrArg₂ FloatOps.addf (congrArg₂ FloatOps.addf (h_v647) (h_v652)) (congrArg₂ FloatOps.addf ((cast_16 v656 l).trans h_v656) ((cast_16 v661 l).trans h_v661)))))

theorem k3_pay377_lane (v702 : Vec F S1x1x16 .f32) (l : Fin 16) :
    k3_pay377 v702 (ix1 l) = v702 (ix3 (0 : Fin 1) (0 : Fin 1) l) := by
  unfold k3_pay377
  exact cast_16 v702 l

theorem k3_pay378_lane (v707 : Vec F S1x1x16 .f32) (l : Fin 16) :
    k3_pay378 v707 (ix1 l) = v707 (ix3 (0 : Fin 1) (0 : Fin 1) l) := by
  unfold k3_pay378
  exact cast_16 v707 l

theorem k3_pay379_lane (v712 : Vec F S1x1x16 .f32) (l : Fin 16) :
    k3_pay379 v712 (ix1 l) = v712 (ix3 (0 : Fin 1) (0 : Fin 1) l) := by
  unfold k3_pay379
  exact cast_16 v712 l

theorem k3_pay380_lane (v717 : Vec F S1x1x16 .f32) (l : Fin 16) :
    k3_pay380 v717 (ix1 l) = v717 (ix3 (0 : Fin 1) (0 : Fin 1) l) := by
  unfold k3_pay380
  exact cast_16 v717 l

theorem k3_pay381_lane (v722 : Vec F S1x1x16 .f32) (l : Fin 16) :
    k3_pay381 v722 (ix1 l) = v722 (ix3 (0 : Fin 1) (0 : Fin 1) l) := by
  unfold k3_pay381
  exact cast_16 v722 l

theorem k3_pay382_lane (v727 : Vec F S1x1x16 .f32) (l : Fin 16) :
    k3_pay382 v727 (ix1 l) = v727 (ix3 (0 : Fin 1) (0 : Fin 1) l) := by
  unfold k3_pay382
  exact cast_16 v727 l

theorem k3_pay383_lane (v732 : Vec F S1x1x16 .f32) (l : Fin 16) :
    k3_pay383 v732 (ix1 l) = v732 (ix3 (0 : Fin 1) (0 : Fin 1) l) := by
  unfold k3_pay383
  exact cast_16 v732 l

theorem k3_pay384_lane (v737 : Vec F S1x1x16 .f32) (l : Fin 16) :
    k3_pay384 v737 (ix1 l) = v737 (ix3 (0 : Fin 1) (0 : Fin 1) l) := by
  unfold k3_pay384
  exact cast_16 v737 l

theorem k3_pay385_lane (v742 : Vec F S1x1x16 .f32) (l : Fin 16) :
    k3_pay385 v742 (ix1 l) = v742 (ix3 (0 : Fin 1) (0 : Fin 1) l) := by
  unfold k3_pay385
  exact cast_16 v742 l

theorem k3_pay386_lane (v747 : Vec F S1x1x16 .f32) (l : Fin 16) :
    k3_pay386 v747 (ix1 l) = v747 (ix3 (0 : Fin 1) (0 : Fin 1) l) := by
  unfold k3_pay386
  exact cast_16 v747 l

theorem k3_pay387_lane (v752 : Vec F S1x1x16 .f32) (l : Fin 16) :
    k3_pay387 v752 (ix1 l) = v752 (ix3 (0 : Fin 1) (0 : Fin 1) l) := by
  unfold k3_pay387
  exact cast_16 v752 l

theorem k3_pay388_lane (v757 : Vec F S1x1x16 .f32) (l : Fin 16) :
    k3_pay388 v757 (ix1 l) = v757 (ix3 (0 : Fin 1) (0 : Fin 1) l) := by
  unfold k3_pay388
  exact cast_16 v757 l

theorem k3_pay389_lane (v762 : Vec F S1x1x16 .f32) (l : Fin 16) :
    k3_pay389 v762 (ix1 l) = v762 (ix3 (0 : Fin 1) (0 : Fin 1) l) := by
  unfold k3_pay389
  exact cast_16 v762 l

theorem k3_pay390_lane (v767 : Vec F S1x1x16 .f32) (l : Fin 16) :
    k3_pay390 v767 (ix1 l) = v767 (ix3 (0 : Fin 1) (0 : Fin 1) l) := by
  unfold k3_pay390
  exact cast_16 v767 l

theorem k3_pay391_lane (v772 : Vec F S1x1x16 .f32) (l : Fin 16) :
    k3_pay391 v772 (ix1 l) = v772 (ix3 (0 : Fin 1) (0 : Fin 1) l) := by
  unfold k3_pay391
  exact cast_16 v772 l

theorem k3_pay392_lane (v777 : Vec F S1x1x16 .f32) (l : Fin 16) :
    k3_pay392 v777 (ix1 l) = v777 (ix3 (0 : Fin 1) (0 : Fin 1) l) := by
  unfold k3_pay392
  exact cast_16 v777 l

theorem k3_pay393_lane (v782 : Vec F S1x1x16 .f32) (l : Fin 16) :
    k3_pay393 v782 (ix1 l) = v782 (ix3 (0 : Fin 1) (0 : Fin 1) l) := by
  unfold k3_pay393
  exact cast_16 v782 l

theorem k3_pay394_lane (v787 : Vec F S1x1x16 .f32) (l : Fin 16) :
    k3_pay394 v787 (ix1 l) = v787 (ix3 (0 : Fin 1) (0 : Fin 1) l) := by
  unfold k3_pay394
  exact cast_16 v787 l

theorem k3_pay395_lane (v792 : Vec F S1x1x16 .f32) (l : Fin 16) :
    k3_pay395 v792 (ix1 l) = v792 (ix3 (0 : Fin 1) (0 : Fin 1) l) := by
  unfold k3_pay395
  exact cast_16 v792 l

theorem k3_pay396_lane (v797 : Vec F S1x1x16 .f32) (l : Fin 16) :
    k3_pay396 v797 (ix1 l) = v797 (ix3 (0 : Fin 1) (0 : Fin 1) l) := by
  unfold k3_pay396
  exact cast_16 v797 l

theorem k3_pay397_lane (v802 : Vec F S1x1x16 .f32) (l : Fin 16) :
    k3_pay397 v802 (ix1 l) = v802 (ix3 (0 : Fin 1) (0 : Fin 1) l) := by
  unfold k3_pay397
  exact cast_16 v802 l

theorem k3_pay398_lane (v807 : Vec F S1x1x16 .f32) (l : Fin 16) :
    k3_pay398 v807 (ix1 l) = v807 (ix3 (0 : Fin 1) (0 : Fin 1) l) := by
  unfold k3_pay398
  exact cast_16 v807 l

theorem k3_pay399_lane (v812 : Vec F S1x1x16 .f32) (l : Fin 16) :
    k3_pay399 v812 (ix1 l) = v812 (ix3 (0 : Fin 1) (0 : Fin 1) l) := by
  unfold k3_pay399
  exact cast_16 v812 l

theorem k3_pay400_lane (v817 : Vec F S1x1x16 .f32) (l : Fin 16) :
    k3_pay400 v817 (ix1 l) = v817 (ix3 (0 : Fin 1) (0 : Fin 1) l) := by
  unfold k3_pay400
  exact cast_16 v817 l

theorem k3_pay401_lane (v822 : Vec F S1x1x16 .f32) (l : Fin 16) :
    k3_pay401 v822 (ix1 l) = v822 (ix3 (0 : Fin 1) (0 : Fin 1) l) := by
  unfold k3_pay401
  exact cast_16 v822 l

theorem k3_pay402_lane (v827 : Vec F S1x1x16 .f32) (l : Fin 16) :
    k3_pay402 v827 (ix1 l) = v827 (ix3 (0 : Fin 1) (0 : Fin 1) l) := by
  unfold k3_pay402
  exact cast_16 v827 l

theorem k3_pay403_lane (v832 : Vec F S1x1x16 .f32) (l : Fin 16) :
    k3_pay403 v832 (ix1 l) = v832 (ix3 (0 : Fin 1) (0 : Fin 1) l) := by
  unfold k3_pay403
  exact cast_16 v832 l

theorem k3_pay404_lane (v837 : Vec F S1x1x16 .f32) (l : Fin 16) :
    k3_pay404 v837 (ix1 l) = v837 (ix3 (0 : Fin 1) (0 : Fin 1) l) := by
  unfold k3_pay404
  exact cast_16 v837 l

theorem k3_pay405_lane (v842 : Vec F S1x1x16 .f32) (l : Fin 16) :
    k3_pay405 v842 (ix1 l) = v842 (ix3 (0 : Fin 1) (0 : Fin 1) l) := by
  unfold k3_pay405
  exact cast_16 v842 l

theorem k3_pay406_lane (v847 : Vec F S1x1x16 .f32) (l : Fin 16) :
    k3_pay406 v847 (ix1 l) = v847 (ix3 (0 : Fin 1) (0 : Fin 1) l) := by
  unfold k3_pay406
  exact cast_16 v847 l

theorem k3_pay407_lane (v852 : Vec F S1x1x16 .f32) (l : Fin 16) :
    k3_pay407 v852 (ix1 l) = v852 (ix3 (0 : Fin 1) (0 : Fin 1) l) := by
  unfold k3_pay407
  exact cast_16 v852 l

theorem k3_pay408_lane (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (l : Fin 16) :
    k3_pay408 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = FloatOps.addf (FloatOps.addf (FloatOps.addf (FloatOps.addf (FloatOps.addf (v703 (ix1 l)) (v708 (ix1 l))) (FloatOps.addf (v713 (ix1 l)) (v718 (ix1 l)))) (FloatOps.addf (FloatOps.addf (v723 (ix1 l)) (v728 (ix1 l))) (FloatOps.addf (v733 (ix1 l)) (v738 (ix1 l))))) (FloatOps.addf (FloatOps.addf (FloatOps.addf (v743 (ix1 l)) (v748 (ix1 l))) (FloatOps.addf (v753 (ix1 l)) (v758 (ix1 l)))) (FloatOps.addf (FloatOps.addf (v763 (ix1 l)) (v768 (ix1 l))) (FloatOps.addf (v773 (ix1 l)) (v778 (ix1 l)))))) (FloatOps.addf (FloatOps.addf (FloatOps.addf (FloatOps.addf (v783 (ix1 l)) (v788 (ix1 l))) (FloatOps.addf (v793 (ix1 l)) (v798 (ix1 l)))) (FloatOps.addf (FloatOps.addf (v803 (ix1 l)) (v808 (ix1 l))) (FloatOps.addf (v813 (ix1 l)) (v818 (ix1 l))))) (FloatOps.addf (FloatOps.addf (FloatOps.addf (v823 (ix1 l)) (v828 (ix1 l))) (FloatOps.addf (v833 (ix1 l)) (v838 (ix1 l)))) (FloatOps.addf (FloatOps.addf (v843 (ix1 l)) (v848 (ix1 l))) (FloatOps.addf (v853 (ix1 l)) (v857 (ix3 (0 : Fin 1) (0 : Fin 1) l)))))) := by
  unfold k3_pay408
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (cast_16 v857 l)))))

theorem k3_pay408_tree (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (w : Fin 32 → F .f32) (l : Fin 16)
    (h_v703 : v703 (ix1 l) = w 0)
    (h_v708 : v708 (ix1 l) = w 1)
    (h_v713 : v713 (ix1 l) = w 2)
    (h_v718 : v718 (ix1 l) = w 3)
    (h_v723 : v723 (ix1 l) = w 4)
    (h_v728 : v728 (ix1 l) = w 5)
    (h_v733 : v733 (ix1 l) = w 6)
    (h_v738 : v738 (ix1 l) = w 7)
    (h_v743 : v743 (ix1 l) = w 8)
    (h_v748 : v748 (ix1 l) = w 9)
    (h_v753 : v753 (ix1 l) = w 10)
    (h_v758 : v758 (ix1 l) = w 11)
    (h_v763 : v763 (ix1 l) = w 12)
    (h_v768 : v768 (ix1 l) = w 13)
    (h_v773 : v773 (ix1 l) = w 14)
    (h_v778 : v778 (ix1 l) = w 15)
    (h_v783 : v783 (ix1 l) = w 16)
    (h_v788 : v788 (ix1 l) = w 17)
    (h_v793 : v793 (ix1 l) = w 18)
    (h_v798 : v798 (ix1 l) = w 19)
    (h_v803 : v803 (ix1 l) = w 20)
    (h_v808 : v808 (ix1 l) = w 21)
    (h_v813 : v813 (ix1 l) = w 22)
    (h_v818 : v818 (ix1 l) = w 23)
    (h_v823 : v823 (ix1 l) = w 24)
    (h_v828 : v828 (ix1 l) = w 25)
    (h_v833 : v833 (ix1 l) = w 26)
    (h_v838 : v838 (ix1 l) = w 27)
    (h_v843 : v843 (ix1 l) = w 28)
    (h_v848 : v848 (ix1 l) = w 29)
    (h_v853 : v853 (ix1 l) = w 30)
    (h_v857 : v857 (ix3 (0 : Fin 1) (0 : Fin 1) l) = w 31) :
    k3_pay408 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = tree32 w := by
  unfold k3_pay408
  refine (cast_116 _ l).trans ?_
  exact congrArg₂ FloatOps.addf (congrArg₂ FloatOps.addf (congrArg₂ FloatOps.addf (congrArg₂ FloatOps.addf (congrArg₂ FloatOps.addf (h_v703) (h_v708)) (congrArg₂ FloatOps.addf (h_v713) (h_v718))) (congrArg₂ FloatOps.addf (congrArg₂ FloatOps.addf (h_v723) (h_v728)) (congrArg₂ FloatOps.addf (h_v733) (h_v738)))) (congrArg₂ FloatOps.addf (congrArg₂ FloatOps.addf (congrArg₂ FloatOps.addf (h_v743) (h_v748)) (congrArg₂ FloatOps.addf (h_v753) (h_v758))) (congrArg₂ FloatOps.addf (congrArg₂ FloatOps.addf (h_v763) (h_v768)) (congrArg₂ FloatOps.addf (h_v773) (h_v778))))) (congrArg₂ FloatOps.addf (congrArg₂ FloatOps.addf (congrArg₂ FloatOps.addf (congrArg₂ FloatOps.addf (h_v783) (h_v788)) (congrArg₂ FloatOps.addf (h_v793) (h_v798))) (congrArg₂ FloatOps.addf (congrArg₂ FloatOps.addf (h_v803) (h_v808)) (congrArg₂ FloatOps.addf (h_v813) (h_v818)))) (congrArg₂ FloatOps.addf (congrArg₂ FloatOps.addf (congrArg₂ FloatOps.addf (h_v823) (h_v828)) (congrArg₂ FloatOps.addf (h_v833) (h_v838))) (congrArg₂ FloatOps.addf (congrArg₂ FloatOps.addf (h_v843) (h_v848)) (congrArg₂ FloatOps.addf (h_v853) ((cast_16 v857 l).trans h_v857)))))

theorem k3_pay409_lane (v898 : Vec F S1x1x16 .f32) (l : Fin 16) :
    k3_pay409 v898 (ix1 l) = v898 (ix3 (0 : Fin 1) (0 : Fin 1) l) := by
  unfold k3_pay409
  exact cast_16 v898 l

theorem k3_pay410_lane (v903 : Vec F S1x1x16 .f32) (l : Fin 16) :
    k3_pay410 v903 (ix1 l) = v903 (ix3 (0 : Fin 1) (0 : Fin 1) l) := by
  unfold k3_pay410
  exact cast_16 v903 l

theorem k3_pay411_lane (v908 : Vec F S1x1x16 .f32) (l : Fin 16) :
    k3_pay411 v908 (ix1 l) = v908 (ix3 (0 : Fin 1) (0 : Fin 1) l) := by
  unfold k3_pay411
  exact cast_16 v908 l

theorem k3_pay412_lane (v913 : Vec F S1x1x16 .f32) (l : Fin 16) :
    k3_pay412 v913 (ix1 l) = v913 (ix3 (0 : Fin 1) (0 : Fin 1) l) := by
  unfold k3_pay412
  exact cast_16 v913 l

theorem k3_pay413_lane (v918 : Vec F S1x1x16 .f32) (l : Fin 16) :
    k3_pay413 v918 (ix1 l) = v918 (ix3 (0 : Fin 1) (0 : Fin 1) l) := by
  unfold k3_pay413
  exact cast_16 v918 l

theorem k3_pay414_lane (v923 : Vec F S1x1x16 .f32) (l : Fin 16) :
    k3_pay414 v923 (ix1 l) = v923 (ix3 (0 : Fin 1) (0 : Fin 1) l) := by
  unfold k3_pay414
  exact cast_16 v923 l

theorem k3_pay415_lane (v928 : Vec F S1x1x16 .f32) (l : Fin 16) :
    k3_pay415 v928 (ix1 l) = v928 (ix3 (0 : Fin 1) (0 : Fin 1) l) := by
  unfold k3_pay415
  exact cast_16 v928 l

theorem k3_pay416_lane (v933 : Vec F S1x1x16 .f32) (l : Fin 16) :
    k3_pay416 v933 (ix1 l) = v933 (ix3 (0 : Fin 1) (0 : Fin 1) l) := by
  unfold k3_pay416
  exact cast_16 v933 l

theorem k3_pay417_lane (v938 : Vec F S1x1x16 .f32) (l : Fin 16) :
    k3_pay417 v938 (ix1 l) = v938 (ix3 (0 : Fin 1) (0 : Fin 1) l) := by
  unfold k3_pay417
  exact cast_16 v938 l

theorem k3_pay418_lane (v943 : Vec F S1x1x16 .f32) (l : Fin 16) :
    k3_pay418 v943 (ix1 l) = v943 (ix3 (0 : Fin 1) (0 : Fin 1) l) := by
  unfold k3_pay418
  exact cast_16 v943 l

theorem k3_pay419_lane (v948 : Vec F S1x1x16 .f32) (l : Fin 16) :
    k3_pay419 v948 (ix1 l) = v948 (ix3 (0 : Fin 1) (0 : Fin 1) l) := by
  unfold k3_pay419
  exact cast_16 v948 l

theorem k3_pay420_lane (v953 : Vec F S1x1x16 .f32) (l : Fin 16) :
    k3_pay420 v953 (ix1 l) = v953 (ix3 (0 : Fin 1) (0 : Fin 1) l) := by
  unfold k3_pay420
  exact cast_16 v953 l

theorem k3_pay421_lane (v958 : Vec F S1x1x16 .f32) (l : Fin 16) :
    k3_pay421 v958 (ix1 l) = v958 (ix3 (0 : Fin 1) (0 : Fin 1) l) := by
  unfold k3_pay421
  exact cast_16 v958 l

theorem k3_pay422_lane (v963 : Vec F S1x1x16 .f32) (l : Fin 16) :
    k3_pay422 v963 (ix1 l) = v963 (ix3 (0 : Fin 1) (0 : Fin 1) l) := by
  unfold k3_pay422
  exact cast_16 v963 l

theorem k3_pay423_lane (v968 : Vec F S1x1x16 .f32) (l : Fin 16) :
    k3_pay423 v968 (ix1 l) = v968 (ix3 (0 : Fin 1) (0 : Fin 1) l) := by
  unfold k3_pay423
  exact cast_16 v968 l

theorem k3_pay424_lane (v973 : Vec F S1x1x16 .f32) (l : Fin 16) :
    k3_pay424 v973 (ix1 l) = v973 (ix3 (0 : Fin 1) (0 : Fin 1) l) := by
  unfold k3_pay424
  exact cast_16 v973 l

theorem k3_pay425_lane (v978 : Vec F S1x1x16 .f32) (l : Fin 16) :
    k3_pay425 v978 (ix1 l) = v978 (ix3 (0 : Fin 1) (0 : Fin 1) l) := by
  unfold k3_pay425
  exact cast_16 v978 l

theorem k3_pay426_lane (v983 : Vec F S1x1x16 .f32) (l : Fin 16) :
    k3_pay426 v983 (ix1 l) = v983 (ix3 (0 : Fin 1) (0 : Fin 1) l) := by
  unfold k3_pay426
  exact cast_16 v983 l

theorem k3_pay427_lane (v988 : Vec F S1x1x16 .f32) (l : Fin 16) :
    k3_pay427 v988 (ix1 l) = v988 (ix3 (0 : Fin 1) (0 : Fin 1) l) := by
  unfold k3_pay427
  exact cast_16 v988 l

theorem k3_pay428_lane (v993 : Vec F S1x1x16 .f32) (l : Fin 16) :
    k3_pay428 v993 (ix1 l) = v993 (ix3 (0 : Fin 1) (0 : Fin 1) l) := by
  unfold k3_pay428
  exact cast_16 v993 l

theorem k3_pay429_lane (v998 : Vec F S1x1x16 .f32) (l : Fin 16) :
    k3_pay429 v998 (ix1 l) = v998 (ix3 (0 : Fin 1) (0 : Fin 1) l) := by
  unfold k3_pay429
  exact cast_16 v998 l

theorem k3_pay430_lane (v1003 : Vec F S1x1x16 .f32) (l : Fin 16) :
    k3_pay430 v1003 (ix1 l) = v1003 (ix3 (0 : Fin 1) (0 : Fin 1) l) := by
  unfold k3_pay430
  exact cast_16 v1003 l

theorem k3_pay431_lane (v1008 : Vec F S1x1x16 .f32) (l : Fin 16) :
    k3_pay431 v1008 (ix1 l) = v1008 (ix3 (0 : Fin 1) (0 : Fin 1) l) := by
  unfold k3_pay431
  exact cast_16 v1008 l

theorem k3_pay432_lane (v1013 : Vec F S1x1x16 .f32) (l : Fin 16) :
    k3_pay432 v1013 (ix1 l) = v1013 (ix3 (0 : Fin 1) (0 : Fin 1) l) := by
  unfold k3_pay432
  exact cast_16 v1013 l

theorem k3_pay433_lane (v1018 : Vec F S1x1x16 .f32) (l : Fin 16) :
    k3_pay433 v1018 (ix1 l) = v1018 (ix3 (0 : Fin 1) (0 : Fin 1) l) := by
  unfold k3_pay433
  exact cast_16 v1018 l

theorem k3_pay434_lane (v1023 : Vec F S1x1x16 .f32) (l : Fin 16) :
    k3_pay434 v1023 (ix1 l) = v1023 (ix3 (0 : Fin 1) (0 : Fin 1) l) := by
  unfold k3_pay434
  exact cast_16 v1023 l

theorem k3_pay435_lane (v1028 : Vec F S1x1x16 .f32) (l : Fin 16) :
    k3_pay435 v1028 (ix1 l) = v1028 (ix3 (0 : Fin 1) (0 : Fin 1) l) := by
  unfold k3_pay435
  exact cast_16 v1028 l

theorem k3_pay436_lane (v1033 : Vec F S1x1x16 .f32) (l : Fin 16) :
    k3_pay436 v1033 (ix1 l) = v1033 (ix3 (0 : Fin 1) (0 : Fin 1) l) := by
  unfold k3_pay436
  exact cast_16 v1033 l

theorem k3_pay437_lane (v1038 : Vec F S1x1x16 .f32) (l : Fin 16) :
    k3_pay437 v1038 (ix1 l) = v1038 (ix3 (0 : Fin 1) (0 : Fin 1) l) := by
  unfold k3_pay437
  exact cast_16 v1038 l

theorem k3_pay438_lane (v1043 : Vec F S1x1x16 .f32) (l : Fin 16) :
    k3_pay438 v1043 (ix1 l) = v1043 (ix3 (0 : Fin 1) (0 : Fin 1) l) := by
  unfold k3_pay438
  exact cast_16 v1043 l

theorem k3_pay439_lane (v1048 : Vec F S1x1x16 .f32) (l : Fin 16) :
    k3_pay439 v1048 (ix1 l) = v1048 (ix3 (0 : Fin 1) (0 : Fin 1) l) := by
  unfold k3_pay439
  exact cast_16 v1048 l

theorem k3_pay440_lane (v1053 : Vec F S1x1x16 .f32) (l : Fin 16) :
    k3_pay440 v1053 (ix1 l) = v1053 (ix3 (0 : Fin 1) (0 : Fin 1) l) := by
  unfold k3_pay440
  exact cast_16 v1053 l

theorem k3_pay441_lane (v899 : FVec F S16 .f32) (v904 : FVec F S16 .f32) (l : Fin 16) :
    k3_pay441 v899 v904 (ix1 l) = FloatOps.addf (v899 (ix1 l)) (v904 (ix1 l)) := by
  unfold k3_pay441
  exact congrArg₂ FloatOps.addf (rfl) (rfl)

theorem k3_pay442_lane (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (l : Fin 16) :
    k3_pay442 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = FloatOps.addf (FloatOps.addf (FloatOps.addf (FloatOps.addf (v1055 (ix1 l)) (FloatOps.addf (v909 (ix1 l)) (v914 (ix1 l)))) (FloatOps.addf (FloatOps.addf (v919 (ix1 l)) (v924 (ix1 l))) (FloatOps.addf (v929 (ix1 l)) (v934 (ix1 l))))) (FloatOps.addf (FloatOps.addf (FloatOps.addf (v939 (ix1 l)) (v944 (ix1 l))) (FloatOps.addf (v949 (ix1 l)) (v954 (ix1 l)))) (FloatOps.addf (FloatOps.addf (v959 (ix1 l)) (v964 (ix1 l))) (FloatOps.addf (v969 (ix1 l)) (v974 (ix1 l)))))) (FloatOps.addf (FloatOps.addf (FloatOps.addf (FloatOps.addf (v979 (ix1 l)) (v984 (ix1 l))) (FloatOps.addf (v989 (ix1 l)) (v994 (ix1 l)))) (FloatOps.addf (FloatOps.addf (v999 (ix1 l)) (v1004 (ix1 l))) (FloatOps.addf (v1009 (ix1 l)) (v1014 (ix1 l))))) (FloatOps.addf (FloatOps.addf (FloatOps.addf (v1019 (ix1 l)) (v1024 (ix1 l))) (FloatOps.addf (v1029 (ix1 l)) (v1034 (ix1 l)))) (FloatOps.addf (FloatOps.addf (v1039 (ix1 l)) (v1044 (ix1 l))) (FloatOps.addf (v1049 (ix1 l)) (v1054 (ix1 l)))))) := by
  unfold k3_pay442
  refine (cast_116 _ l).trans ?_
  exact congrArg₂ FloatOps.addf (congrArg₂ FloatOps.addf (congrArg₂ FloatOps.addf (congrArg₂ FloatOps.addf (rfl) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k3_pay442_tree (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (w : Fin 32 → F .f32) (l : Fin 16)
    (h_v1055 : v1055 (ix1 l) = FloatOps.addf (w 0) (w 1))
    (h_v909 : v909 (ix1 l) = w 2)
    (h_v914 : v914 (ix1 l) = w 3)
    (h_v919 : v919 (ix1 l) = w 4)
    (h_v924 : v924 (ix1 l) = w 5)
    (h_v929 : v929 (ix1 l) = w 6)
    (h_v934 : v934 (ix1 l) = w 7)
    (h_v939 : v939 (ix1 l) = w 8)
    (h_v944 : v944 (ix1 l) = w 9)
    (h_v949 : v949 (ix1 l) = w 10)
    (h_v954 : v954 (ix1 l) = w 11)
    (h_v959 : v959 (ix1 l) = w 12)
    (h_v964 : v964 (ix1 l) = w 13)
    (h_v969 : v969 (ix1 l) = w 14)
    (h_v974 : v974 (ix1 l) = w 15)
    (h_v979 : v979 (ix1 l) = w 16)
    (h_v984 : v984 (ix1 l) = w 17)
    (h_v989 : v989 (ix1 l) = w 18)
    (h_v994 : v994 (ix1 l) = w 19)
    (h_v999 : v999 (ix1 l) = w 20)
    (h_v1004 : v1004 (ix1 l) = w 21)
    (h_v1009 : v1009 (ix1 l) = w 22)
    (h_v1014 : v1014 (ix1 l) = w 23)
    (h_v1019 : v1019 (ix1 l) = w 24)
    (h_v1024 : v1024 (ix1 l) = w 25)
    (h_v1029 : v1029 (ix1 l) = w 26)
    (h_v1034 : v1034 (ix1 l) = w 27)
    (h_v1039 : v1039 (ix1 l) = w 28)
    (h_v1044 : v1044 (ix1 l) = w 29)
    (h_v1049 : v1049 (ix1 l) = w 30)
    (h_v1054 : v1054 (ix1 l) = w 31) :
    k3_pay442 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = tree32 w := by
  unfold k3_pay442
  refine (cast_116 _ l).trans ?_
  exact congrArg₂ FloatOps.addf (congrArg₂ FloatOps.addf (congrArg₂ FloatOps.addf (congrArg₂ FloatOps.addf (h_v1055) (congrArg₂ FloatOps.addf (h_v909) (h_v914))) (congrArg₂ FloatOps.addf (congrArg₂ FloatOps.addf (h_v919) (h_v924)) (congrArg₂ FloatOps.addf (h_v929) (h_v934)))) (congrArg₂ FloatOps.addf (congrArg₂ FloatOps.addf (congrArg₂ FloatOps.addf (h_v939) (h_v944)) (congrArg₂ FloatOps.addf (h_v949) (h_v954))) (congrArg₂ FloatOps.addf (congrArg₂ FloatOps.addf (h_v959) (h_v964)) (congrArg₂ FloatOps.addf (h_v969) (h_v974))))) (congrArg₂ FloatOps.addf (congrArg₂ FloatOps.addf (congrArg₂ FloatOps.addf (congrArg₂ FloatOps.addf (h_v979) (h_v984)) (congrArg₂ FloatOps.addf (h_v989) (h_v994))) (congrArg₂ FloatOps.addf (congrArg₂ FloatOps.addf (h_v999) (h_v1004)) (congrArg₂ FloatOps.addf (h_v1009) (h_v1014)))) (congrArg₂ FloatOps.addf (congrArg₂ FloatOps.addf (congrArg₂ FloatOps.addf (h_v1019) (h_v1024)) (congrArg₂ FloatOps.addf (h_v1029) (h_v1034))) (congrArg₂ FloatOps.addf (congrArg₂ FloatOps.addf (h_v1039) (h_v1044)) (congrArg₂ FloatOps.addf (h_v1049) (h_v1054)))))

theorem k3_pay443_lane (v1094 : Vec F S1x1x16 .f32) (l : Fin 16) :
    k3_pay443 v1094 (ix1 l) = v1094 (ix3 (0 : Fin 1) (0 : Fin 1) l) := by
  unfold k3_pay443
  exact cast_16 v1094 l

theorem k3_pay444_lane (v1099 : Vec F S1x1x16 .f32) (l : Fin 16) :
    k3_pay444 v1099 (ix1 l) = v1099 (ix3 (0 : Fin 1) (0 : Fin 1) l) := by
  unfold k3_pay444
  exact cast_16 v1099 l

theorem k3_pay445_lane (v1104 : Vec F S1x1x16 .f32) (l : Fin 16) :
    k3_pay445 v1104 (ix1 l) = v1104 (ix3 (0 : Fin 1) (0 : Fin 1) l) := by
  unfold k3_pay445
  exact cast_16 v1104 l

theorem k3_pay446_lane (v1109 : Vec F S1x1x16 .f32) (l : Fin 16) :
    k3_pay446 v1109 (ix1 l) = v1109 (ix3 (0 : Fin 1) (0 : Fin 1) l) := by
  unfold k3_pay446
  exact cast_16 v1109 l

theorem k3_pay447_lane (v1114 : Vec F S1x1x16 .f32) (l : Fin 16) :
    k3_pay447 v1114 (ix1 l) = v1114 (ix3 (0 : Fin 1) (0 : Fin 1) l) := by
  unfold k3_pay447
  exact cast_16 v1114 l

theorem k3_pay448_lane (v1119 : Vec F S1x1x16 .f32) (l : Fin 16) :
    k3_pay448 v1119 (ix1 l) = v1119 (ix3 (0 : Fin 1) (0 : Fin 1) l) := by
  unfold k3_pay448
  exact cast_16 v1119 l

theorem k3_pay449_lane (v1124 : Vec F S1x1x16 .f32) (l : Fin 16) :
    k3_pay449 v1124 (ix1 l) = v1124 (ix3 (0 : Fin 1) (0 : Fin 1) l) := by
  unfold k3_pay449
  exact cast_16 v1124 l

theorem k3_pay450_lane (v1129 : Vec F S1x1x16 .f32) (l : Fin 16) :
    k3_pay450 v1129 (ix1 l) = v1129 (ix3 (0 : Fin 1) (0 : Fin 1) l) := by
  unfold k3_pay450
  exact cast_16 v1129 l

theorem k3_pay451_lane (v1134 : Vec F S1x1x16 .f32) (l : Fin 16) :
    k3_pay451 v1134 (ix1 l) = v1134 (ix3 (0 : Fin 1) (0 : Fin 1) l) := by
  unfold k3_pay451
  exact cast_16 v1134 l

theorem k3_pay452_lane (v1139 : Vec F S1x1x16 .f32) (l : Fin 16) :
    k3_pay452 v1139 (ix1 l) = v1139 (ix3 (0 : Fin 1) (0 : Fin 1) l) := by
  unfold k3_pay452
  exact cast_16 v1139 l

theorem k3_pay453_lane (v1144 : Vec F S1x1x16 .f32) (l : Fin 16) :
    k3_pay453 v1144 (ix1 l) = v1144 (ix3 (0 : Fin 1) (0 : Fin 1) l) := by
  unfold k3_pay453
  exact cast_16 v1144 l

theorem k3_pay454_lane (v1149 : Vec F S1x1x16 .f32) (l : Fin 16) :
    k3_pay454 v1149 (ix1 l) = v1149 (ix3 (0 : Fin 1) (0 : Fin 1) l) := by
  unfold k3_pay454
  exact cast_16 v1149 l

theorem k3_pay455_lane (v1154 : Vec F S1x1x16 .f32) (l : Fin 16) :
    k3_pay455 v1154 (ix1 l) = v1154 (ix3 (0 : Fin 1) (0 : Fin 1) l) := by
  unfold k3_pay455
  exact cast_16 v1154 l

theorem k3_pay456_lane (v1159 : Vec F S1x1x16 .f32) (l : Fin 16) :
    k3_pay456 v1159 (ix1 l) = v1159 (ix3 (0 : Fin 1) (0 : Fin 1) l) := by
  unfold k3_pay456
  exact cast_16 v1159 l

theorem k3_pay457_lane (v1164 : Vec F S1x1x16 .f32) (l : Fin 16) :
    k3_pay457 v1164 (ix1 l) = v1164 (ix3 (0 : Fin 1) (0 : Fin 1) l) := by
  unfold k3_pay457
  exact cast_16 v1164 l

theorem k3_pay458_lane (v1169 : Vec F S1x1x16 .f32) (l : Fin 16) :
    k3_pay458 v1169 (ix1 l) = v1169 (ix3 (0 : Fin 1) (0 : Fin 1) l) := by
  unfold k3_pay458
  exact cast_16 v1169 l

theorem k3_pay459_lane (v1174 : Vec F S1x1x16 .f32) (l : Fin 16) :
    k3_pay459 v1174 (ix1 l) = v1174 (ix3 (0 : Fin 1) (0 : Fin 1) l) := by
  unfold k3_pay459
  exact cast_16 v1174 l

theorem k3_pay460_lane (v1179 : Vec F S1x1x16 .f32) (l : Fin 16) :
    k3_pay460 v1179 (ix1 l) = v1179 (ix3 (0 : Fin 1) (0 : Fin 1) l) := by
  unfold k3_pay460
  exact cast_16 v1179 l

theorem k3_pay461_lane (v1184 : Vec F S1x1x16 .f32) (l : Fin 16) :
    k3_pay461 v1184 (ix1 l) = v1184 (ix3 (0 : Fin 1) (0 : Fin 1) l) := by
  unfold k3_pay461
  exact cast_16 v1184 l

theorem k3_pay462_lane (v1189 : Vec F S1x1x16 .f32) (l : Fin 16) :
    k3_pay462 v1189 (ix1 l) = v1189 (ix3 (0 : Fin 1) (0 : Fin 1) l) := by
  unfold k3_pay462
  exact cast_16 v1189 l

theorem k3_pay463_lane (v1194 : Vec F S1x1x16 .f32) (l : Fin 16) :
    k3_pay463 v1194 (ix1 l) = v1194 (ix3 (0 : Fin 1) (0 : Fin 1) l) := by
  unfold k3_pay463
  exact cast_16 v1194 l

theorem k3_pay464_lane (v1199 : Vec F S1x1x16 .f32) (l : Fin 16) :
    k3_pay464 v1199 (ix1 l) = v1199 (ix3 (0 : Fin 1) (0 : Fin 1) l) := by
  unfold k3_pay464
  exact cast_16 v1199 l

theorem k3_pay465_lane (v1204 : Vec F S1x1x16 .f32) (l : Fin 16) :
    k3_pay465 v1204 (ix1 l) = v1204 (ix3 (0 : Fin 1) (0 : Fin 1) l) := by
  unfold k3_pay465
  exact cast_16 v1204 l

theorem k3_pay466_lane (v1209 : Vec F S1x1x16 .f32) (l : Fin 16) :
    k3_pay466 v1209 (ix1 l) = v1209 (ix3 (0 : Fin 1) (0 : Fin 1) l) := by
  unfold k3_pay466
  exact cast_16 v1209 l

theorem k3_pay467_lane (v1214 : Vec F S1x1x16 .f32) (l : Fin 16) :
    k3_pay467 v1214 (ix1 l) = v1214 (ix3 (0 : Fin 1) (0 : Fin 1) l) := by
  unfold k3_pay467
  exact cast_16 v1214 l

theorem k3_pay468_lane (v1219 : Vec F S1x1x16 .f32) (l : Fin 16) :
    k3_pay468 v1219 (ix1 l) = v1219 (ix3 (0 : Fin 1) (0 : Fin 1) l) := by
  unfold k3_pay468
  exact cast_16 v1219 l

theorem k3_pay469_lane (v1224 : Vec F S1x1x16 .f32) (l : Fin 16) :
    k3_pay469 v1224 (ix1 l) = v1224 (ix3 (0 : Fin 1) (0 : Fin 1) l) := by
  unfold k3_pay469
  exact cast_16 v1224 l

theorem k3_pay470_lane (v1229 : Vec F S1x1x16 .f32) (l : Fin 16) :
    k3_pay470 v1229 (ix1 l) = v1229 (ix3 (0 : Fin 1) (0 : Fin 1) l) := by
  unfold k3_pay470
  exact cast_16 v1229 l

theorem k3_pay471_lane (v1234 : Vec F S1x1x16 .f32) (l : Fin 16) :
    k3_pay471 v1234 (ix1 l) = v1234 (ix3 (0 : Fin 1) (0 : Fin 1) l) := by
  unfold k3_pay471
  exact cast_16 v1234 l

theorem k3_pay472_lane (v1239 : Vec F S1x1x16 .f32) (l : Fin 16) :
    k3_pay472 v1239 (ix1 l) = v1239 (ix3 (0 : Fin 1) (0 : Fin 1) l) := by
  unfold k3_pay472
  exact cast_16 v1239 l

theorem k3_pay473_lane (v1244 : Vec F S1x1x16 .f32) (l : Fin 16) :
    k3_pay473 v1244 (ix1 l) = v1244 (ix3 (0 : Fin 1) (0 : Fin 1) l) := by
  unfold k3_pay473
  exact cast_16 v1244 l

theorem k3_pay474_lane (v1249 : Vec F S1x1x16 .f32) (l : Fin 16) :
    k3_pay474 v1249 (ix1 l) = v1249 (ix3 (0 : Fin 1) (0 : Fin 1) l) := by
  unfold k3_pay474
  exact cast_16 v1249 l

theorem k3_pay475_lane (v1095 : FVec F S16 .f32) (v1100 : FVec F S16 .f32) (l : Fin 16) :
    k3_pay475 v1095 v1100 (ix1 l) = FloatOps.addf (v1095 (ix1 l)) (v1100 (ix1 l)) := by
  unfold k3_pay475
  exact congrArg₂ FloatOps.addf (rfl) (rfl)

theorem k3_pay476_lane (v1105 : FVec F S16 .f32) (v1110 : FVec F S16 .f32) (l : Fin 16) :
    k3_pay476 v1105 v1110 (ix1 l) = FloatOps.addf (v1105 (ix1 l)) (v1110 (ix1 l)) := by
  unfold k3_pay476
  exact congrArg₂ FloatOps.addf (rfl) (rfl)

theorem k3_pay477_lane (v1115 : FVec F S16 .f32) (v1120 : FVec F S16 .f32) (l : Fin 16) :
    k3_pay477 v1115 v1120 (ix1 l) = FloatOps.addf (v1115 (ix1 l)) (v1120 (ix1 l)) := by
  unfold k3_pay477
  exact congrArg₂ FloatOps.addf (rfl) (rfl)

theorem k3_pay478_lane (v1125 : FVec F S16 .f32) (v1130 : FVec F S16 .f32) (l : Fin 16) :
    k3_pay478 v1125 v1130 (ix1 l) = FloatOps.addf (v1125 (ix1 l)) (v1130 (ix1 l)) := by
  unfold k3_pay478
  exact congrArg₂ FloatOps.addf (rfl) (rfl)

theorem k3_pay479_lane (v1135 : FVec F S16 .f32) (v1140 : FVec F S16 .f32) (l : Fin 16) :
    k3_pay479 v1135 v1140 (ix1 l) = FloatOps.addf (v1135 (ix1 l)) (v1140 (ix1 l)) := by
  unfold k3_pay479
  exact congrArg₂ FloatOps.addf (rfl) (rfl)

theorem k3_pay480_lane (v1145 : FVec F S16 .f32) (v1150 : FVec F S16 .f32) (l : Fin 16) :
    k3_pay480 v1145 v1150 (ix1 l) = FloatOps.addf (v1145 (ix1 l)) (v1150 (ix1 l)) := by
  unfold k3_pay480
  exact congrArg₂ FloatOps.addf (rfl) (rfl)

theorem k3_pay481_lane (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (l : Fin 16) :
    k3_pay481 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = FloatOps.addf (FloatOps.addf (FloatOps.addf (FloatOps.addf (v1251 (ix1 l)) (v1252 (ix1 l))) (FloatOps.addf (v1253 (ix1 l)) (v1254 (ix1 l)))) (FloatOps.addf (FloatOps.addf (v1255 (ix1 l)) (v1256 (ix1 l))) (FloatOps.addf (FloatOps.addf (v1155 (ix1 l)) (v1160 (ix1 l))) (FloatOps.addf (v1165 (ix1 l)) (v1170 (ix1 l)))))) (FloatOps.addf (FloatOps.addf (FloatOps.addf (FloatOps.addf (v1175 (ix1 l)) (v1180 (ix1 l))) (FloatOps.addf (v1185 (ix1 l)) (v1190 (ix1 l)))) (FloatOps.addf (FloatOps.addf (v1195 (ix1 l)) (v1200 (ix1 l))) (FloatOps.addf (v1205 (ix1 l)) (v1210 (ix1 l))))) (FloatOps.addf (FloatOps.addf (FloatOps.addf (v1215 (ix1 l)) (v1220 (ix1 l))) (FloatOps.addf (v1225 (ix1 l)) (v1230 (ix1 l)))) (FloatOps.addf (FloatOps.addf (v1235 (ix1 l)) (v1240 (ix1 l))) (FloatOps.addf (v1245 (ix1 l)) (v1250 (ix1 l)))))) := by
  unfold k3_pay481
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k3_pay481_tree (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (w : Fin 32 → F .f32) (l : Fin 16)
    (h_v1251 : v1251 (ix1 l) = FloatOps.addf (w 0) (w 1))
    (h_v1252 : v1252 (ix1 l) = FloatOps.addf (w 2) (w 3))
    (h_v1253 : v1253 (ix1 l) = FloatOps.addf (w 4) (w 5))
    (h_v1254 : v1254 (ix1 l) = FloatOps.addf (w 6) (w 7))
    (h_v1255 : v1255 (ix1 l) = FloatOps.addf (w 8) (w 9))
    (h_v1256 : v1256 (ix1 l) = FloatOps.addf (w 10) (w 11))
    (h_v1155 : v1155 (ix1 l) = w 12)
    (h_v1160 : v1160 (ix1 l) = w 13)
    (h_v1165 : v1165 (ix1 l) = w 14)
    (h_v1170 : v1170 (ix1 l) = w 15)
    (h_v1175 : v1175 (ix1 l) = w 16)
    (h_v1180 : v1180 (ix1 l) = w 17)
    (h_v1185 : v1185 (ix1 l) = w 18)
    (h_v1190 : v1190 (ix1 l) = w 19)
    (h_v1195 : v1195 (ix1 l) = w 20)
    (h_v1200 : v1200 (ix1 l) = w 21)
    (h_v1205 : v1205 (ix1 l) = w 22)
    (h_v1210 : v1210 (ix1 l) = w 23)
    (h_v1215 : v1215 (ix1 l) = w 24)
    (h_v1220 : v1220 (ix1 l) = w 25)
    (h_v1225 : v1225 (ix1 l) = w 26)
    (h_v1230 : v1230 (ix1 l) = w 27)
    (h_v1235 : v1235 (ix1 l) = w 28)
    (h_v1240 : v1240 (ix1 l) = w 29)
    (h_v1245 : v1245 (ix1 l) = w 30)
    (h_v1250 : v1250 (ix1 l) = w 31) :
    k3_pay481 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = tree32 w := by
  unfold k3_pay481
  refine (cast_116 _ l).trans ?_
  exact congrArg₂ FloatOps.addf (congrArg₂ FloatOps.addf (congrArg₂ FloatOps.addf (congrArg₂ FloatOps.addf (h_v1251) (h_v1252)) (congrArg₂ FloatOps.addf (h_v1253) (h_v1254))) (congrArg₂ FloatOps.addf (congrArg₂ FloatOps.addf (h_v1255) (h_v1256)) (congrArg₂ FloatOps.addf (congrArg₂ FloatOps.addf (h_v1155) (h_v1160)) (congrArg₂ FloatOps.addf (h_v1165) (h_v1170))))) (congrArg₂ FloatOps.addf (congrArg₂ FloatOps.addf (congrArg₂ FloatOps.addf (congrArg₂ FloatOps.addf (h_v1175) (h_v1180)) (congrArg₂ FloatOps.addf (h_v1185) (h_v1190))) (congrArg₂ FloatOps.addf (congrArg₂ FloatOps.addf (h_v1195) (h_v1200)) (congrArg₂ FloatOps.addf (h_v1205) (h_v1210)))) (congrArg₂ FloatOps.addf (congrArg₂ FloatOps.addf (congrArg₂ FloatOps.addf (h_v1215) (h_v1220)) (congrArg₂ FloatOps.addf (h_v1225) (h_v1230))) (congrArg₂ FloatOps.addf (congrArg₂ FloatOps.addf (h_v1235) (h_v1240)) (congrArg₂ FloatOps.addf (h_v1245) (h_v1250)))))

theorem k3_pay482_lane (v1290 : Vec F S1x1x16 .f32) (l : Fin 16) :
    k3_pay482 v1290 (ix1 l) = v1290 (ix3 (0 : Fin 1) (0 : Fin 1) l) := by
  unfold k3_pay482
  exact cast_16 v1290 l

theorem k3_pay483_lane (v1295 : Vec F S1x1x16 .f32) (l : Fin 16) :
    k3_pay483 v1295 (ix1 l) = v1295 (ix3 (0 : Fin 1) (0 : Fin 1) l) := by
  unfold k3_pay483
  exact cast_16 v1295 l

theorem k3_pay484_lane (v1300 : Vec F S1x1x16 .f32) (l : Fin 16) :
    k3_pay484 v1300 (ix1 l) = v1300 (ix3 (0 : Fin 1) (0 : Fin 1) l) := by
  unfold k3_pay484
  exact cast_16 v1300 l

theorem k3_pay485_lane (v1305 : Vec F S1x1x16 .f32) (l : Fin 16) :
    k3_pay485 v1305 (ix1 l) = v1305 (ix3 (0 : Fin 1) (0 : Fin 1) l) := by
  unfold k3_pay485
  exact cast_16 v1305 l

theorem k3_pay486_lane (v1310 : Vec F S1x1x16 .f32) (l : Fin 16) :
    k3_pay486 v1310 (ix1 l) = v1310 (ix3 (0 : Fin 1) (0 : Fin 1) l) := by
  unfold k3_pay486
  exact cast_16 v1310 l

theorem k3_pay487_lane (v1315 : Vec F S1x1x16 .f32) (l : Fin 16) :
    k3_pay487 v1315 (ix1 l) = v1315 (ix3 (0 : Fin 1) (0 : Fin 1) l) := by
  unfold k3_pay487
  exact cast_16 v1315 l

theorem k3_pay488_lane (v1320 : Vec F S1x1x16 .f32) (l : Fin 16) :
    k3_pay488 v1320 (ix1 l) = v1320 (ix3 (0 : Fin 1) (0 : Fin 1) l) := by
  unfold k3_pay488
  exact cast_16 v1320 l

theorem k3_pay489_lane (v1325 : Vec F S1x1x16 .f32) (l : Fin 16) :
    k3_pay489 v1325 (ix1 l) = v1325 (ix3 (0 : Fin 1) (0 : Fin 1) l) := by
  unfold k3_pay489
  exact cast_16 v1325 l

theorem k3_pay490_lane (v1330 : Vec F S1x1x16 .f32) (l : Fin 16) :
    k3_pay490 v1330 (ix1 l) = v1330 (ix3 (0 : Fin 1) (0 : Fin 1) l) := by
  unfold k3_pay490
  exact cast_16 v1330 l

theorem k3_pay491_lane (v1335 : Vec F S1x1x16 .f32) (l : Fin 16) :
    k3_pay491 v1335 (ix1 l) = v1335 (ix3 (0 : Fin 1) (0 : Fin 1) l) := by
  unfold k3_pay491
  exact cast_16 v1335 l

theorem k3_pay492_lane (v1340 : Vec F S1x1x16 .f32) (l : Fin 16) :
    k3_pay492 v1340 (ix1 l) = v1340 (ix3 (0 : Fin 1) (0 : Fin 1) l) := by
  unfold k3_pay492
  exact cast_16 v1340 l

theorem k3_pay493_lane (v1345 : Vec F S1x1x16 .f32) (l : Fin 16) :
    k3_pay493 v1345 (ix1 l) = v1345 (ix3 (0 : Fin 1) (0 : Fin 1) l) := by
  unfold k3_pay493
  exact cast_16 v1345 l

theorem k3_pay494_lane (v1350 : Vec F S1x1x16 .f32) (l : Fin 16) :
    k3_pay494 v1350 (ix1 l) = v1350 (ix3 (0 : Fin 1) (0 : Fin 1) l) := by
  unfold k3_pay494
  exact cast_16 v1350 l

theorem k3_pay495_lane (v1355 : Vec F S1x1x16 .f32) (l : Fin 16) :
    k3_pay495 v1355 (ix1 l) = v1355 (ix3 (0 : Fin 1) (0 : Fin 1) l) := by
  unfold k3_pay495
  exact cast_16 v1355 l

theorem k3_pay496_lane (v1360 : Vec F S1x1x16 .f32) (l : Fin 16) :
    k3_pay496 v1360 (ix1 l) = v1360 (ix3 (0 : Fin 1) (0 : Fin 1) l) := by
  unfold k3_pay496
  exact cast_16 v1360 l

theorem k3_pay497_lane (v1365 : Vec F S1x1x16 .f32) (l : Fin 16) :
    k3_pay497 v1365 (ix1 l) = v1365 (ix3 (0 : Fin 1) (0 : Fin 1) l) := by
  unfold k3_pay497
  exact cast_16 v1365 l

theorem k3_pay498_lane (v1370 : Vec F S1x1x16 .f32) (l : Fin 16) :
    k3_pay498 v1370 (ix1 l) = v1370 (ix3 (0 : Fin 1) (0 : Fin 1) l) := by
  unfold k3_pay498
  exact cast_16 v1370 l

theorem k3_pay499_lane (v1375 : Vec F S1x1x16 .f32) (l : Fin 16) :
    k3_pay499 v1375 (ix1 l) = v1375 (ix3 (0 : Fin 1) (0 : Fin 1) l) := by
  unfold k3_pay499
  exact cast_16 v1375 l

theorem k3_pay500_lane (v1380 : Vec F S1x1x16 .f32) (l : Fin 16) :
    k3_pay500 v1380 (ix1 l) = v1380 (ix3 (0 : Fin 1) (0 : Fin 1) l) := by
  unfold k3_pay500
  exact cast_16 v1380 l

theorem k3_pay501_lane (v1385 : Vec F S1x1x16 .f32) (l : Fin 16) :
    k3_pay501 v1385 (ix1 l) = v1385 (ix3 (0 : Fin 1) (0 : Fin 1) l) := by
  unfold k3_pay501
  exact cast_16 v1385 l

theorem k3_pay502_lane (v1390 : Vec F S1x1x16 .f32) (l : Fin 16) :
    k3_pay502 v1390 (ix1 l) = v1390 (ix3 (0 : Fin 1) (0 : Fin 1) l) := by
  unfold k3_pay502
  exact cast_16 v1390 l

theorem k3_pay503_lane (v1395 : Vec F S1x1x16 .f32) (l : Fin 16) :
    k3_pay503 v1395 (ix1 l) = v1395 (ix3 (0 : Fin 1) (0 : Fin 1) l) := by
  unfold k3_pay503
  exact cast_16 v1395 l

theorem k3_pay504_lane (v1400 : Vec F S1x1x16 .f32) (l : Fin 16) :
    k3_pay504 v1400 (ix1 l) = v1400 (ix3 (0 : Fin 1) (0 : Fin 1) l) := by
  unfold k3_pay504
  exact cast_16 v1400 l

theorem k3_pay505_lane (v1405 : Vec F S1x1x16 .f32) (l : Fin 16) :
    k3_pay505 v1405 (ix1 l) = v1405 (ix3 (0 : Fin 1) (0 : Fin 1) l) := by
  unfold k3_pay505
  exact cast_16 v1405 l

theorem k3_pay506_lane (v1410 : Vec F S1x1x16 .f32) (l : Fin 16) :
    k3_pay506 v1410 (ix1 l) = v1410 (ix3 (0 : Fin 1) (0 : Fin 1) l) := by
  unfold k3_pay506
  exact cast_16 v1410 l

theorem k3_pay507_lane (v1415 : Vec F S1x1x16 .f32) (l : Fin 16) :
    k3_pay507 v1415 (ix1 l) = v1415 (ix3 (0 : Fin 1) (0 : Fin 1) l) := by
  unfold k3_pay507
  exact cast_16 v1415 l

theorem k3_pay508_lane (v1420 : Vec F S1x1x16 .f32) (l : Fin 16) :
    k3_pay508 v1420 (ix1 l) = v1420 (ix3 (0 : Fin 1) (0 : Fin 1) l) := by
  unfold k3_pay508
  exact cast_16 v1420 l

theorem k3_pay509_lane (v1425 : Vec F S1x1x16 .f32) (l : Fin 16) :
    k3_pay509 v1425 (ix1 l) = v1425 (ix3 (0 : Fin 1) (0 : Fin 1) l) := by
  unfold k3_pay509
  exact cast_16 v1425 l

theorem k3_pay510_lane (v1430 : Vec F S1x1x16 .f32) (l : Fin 16) :
    k3_pay510 v1430 (ix1 l) = v1430 (ix3 (0 : Fin 1) (0 : Fin 1) l) := by
  unfold k3_pay510
  exact cast_16 v1430 l

theorem k3_pay511_lane (v1435 : Vec F S1x1x16 .f32) (l : Fin 16) :
    k3_pay511 v1435 (ix1 l) = v1435 (ix3 (0 : Fin 1) (0 : Fin 1) l) := by
  unfold k3_pay511
  exact cast_16 v1435 l

theorem k3_pay512_lane (v1440 : Vec F S1x1x16 .f32) (l : Fin 16) :
    k3_pay512 v1440 (ix1 l) = v1440 (ix3 (0 : Fin 1) (0 : Fin 1) l) := by
  unfold k3_pay512
  exact cast_16 v1440 l

theorem k3_pay513_lane (v1445 : Vec F S1x1x16 .f32) (l : Fin 16) :
    k3_pay513 v1445 (ix1 l) = v1445 (ix3 (0 : Fin 1) (0 : Fin 1) l) := by
  unfold k3_pay513
  exact cast_16 v1445 l

theorem k3_pay514_lane (v1291 : FVec F S16 .f32) (v1296 : FVec F S16 .f32) (l : Fin 16) :
    k3_pay514 v1291 v1296 (ix1 l) = FloatOps.addf (v1291 (ix1 l)) (v1296 (ix1 l)) := by
  unfold k3_pay514
  exact congrArg₂ FloatOps.addf (rfl) (rfl)

theorem k3_pay515_lane (v1301 : FVec F S16 .f32) (v1306 : FVec F S16 .f32) (l : Fin 16) :
    k3_pay515 v1301 v1306 (ix1 l) = FloatOps.addf (v1301 (ix1 l)) (v1306 (ix1 l)) := by
  unfold k3_pay515
  exact congrArg₂ FloatOps.addf (rfl) (rfl)

theorem k3_pay516_lane (v1311 : FVec F S16 .f32) (v1316 : FVec F S16 .f32) (l : Fin 16) :
    k3_pay516 v1311 v1316 (ix1 l) = FloatOps.addf (v1311 (ix1 l)) (v1316 (ix1 l)) := by
  unfold k3_pay516
  exact congrArg₂ FloatOps.addf (rfl) (rfl)

theorem k3_pay517_lane (v1321 : FVec F S16 .f32) (v1326 : FVec F S16 .f32) (l : Fin 16) :
    k3_pay517 v1321 v1326 (ix1 l) = FloatOps.addf (v1321 (ix1 l)) (v1326 (ix1 l)) := by
  unfold k3_pay517
  exact congrArg₂ FloatOps.addf (rfl) (rfl)

theorem k3_pay518_lane (v1331 : FVec F S16 .f32) (v1336 : FVec F S16 .f32) (l : Fin 16) :
    k3_pay518 v1331 v1336 (ix1 l) = FloatOps.addf (v1331 (ix1 l)) (v1336 (ix1 l)) := by
  unfold k3_pay518
  exact congrArg₂ FloatOps.addf (rfl) (rfl)

theorem k3_pay519_lane (v1341 : FVec F S16 .f32) (v1346 : FVec F S16 .f32) (l : Fin 16) :
    k3_pay519 v1341 v1346 (ix1 l) = FloatOps.addf (v1341 (ix1 l)) (v1346 (ix1 l)) := by
  unfold k3_pay519
  exact congrArg₂ FloatOps.addf (rfl) (rfl)

theorem k3_pay520_lane (v1351 : FVec F S16 .f32) (v1356 : FVec F S16 .f32) (l : Fin 16) :
    k3_pay520 v1351 v1356 (ix1 l) = FloatOps.addf (v1351 (ix1 l)) (v1356 (ix1 l)) := by
  unfold k3_pay520
  exact congrArg₂ FloatOps.addf (rfl) (rfl)

theorem k3_pay521_lane (v1361 : FVec F S16 .f32) (v1366 : FVec F S16 .f32) (l : Fin 16) :
    k3_pay521 v1361 v1366 (ix1 l) = FloatOps.addf (v1361 (ix1 l)) (v1366 (ix1 l)) := by
  unfold k3_pay521
  exact congrArg₂ FloatOps.addf (rfl) (rfl)

theorem k3_pay522_lane (v1371 : FVec F S16 .f32) (v1376 : FVec F S16 .f32) (l : Fin 16) :
    k3_pay522 v1371 v1376 (ix1 l) = FloatOps.addf (v1371 (ix1 l)) (v1376 (ix1 l)) := by
  unfold k3_pay522
  exact congrArg₂ FloatOps.addf (rfl) (rfl)

theorem k3_pay523_lane (v1381 : FVec F S16 .f32) (v1386 : FVec F S16 .f32) (l : Fin 16) :
    k3_pay523 v1381 v1386 (ix1 l) = FloatOps.addf (v1381 (ix1 l)) (v1386 (ix1 l)) := by
  unfold k3_pay523
  exact congrArg₂ FloatOps.addf (rfl) (rfl)

theorem k3_pay524_lane (v1391 : FVec F S16 .f32) (v1396 : FVec F S16 .f32) (l : Fin 16) :
    k3_pay524 v1391 v1396 (ix1 l) = FloatOps.addf (v1391 (ix1 l)) (v1396 (ix1 l)) := by
  unfold k3_pay524
  exact congrArg₂ FloatOps.addf (rfl) (rfl)

theorem k3_pay525_lane (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (l : Fin 16) :
    k3_pay525 v1401 v1406 v1411 v1416 v1421 v1426 v1431 v1436 v1441 v1446 v1447 v1448 v1449 v1450 v1451 v1452 v1453 v1454 v1455 v1456 v1457 (ix3 (0 : Fin 1) (0 : Fin 1) l) = FloatOps.addf (FloatOps.addf (FloatOps.addf (FloatOps.addf (v1447 (ix1 l)) (v1448 (ix1 l))) (FloatOps.addf (v1449 (ix1 l)) (v1450 (ix1 l)))) (FloatOps.addf (FloatOps.addf (v1451 (ix1 l)) (v1452 (ix1 l))) (FloatOps.addf (v1453 (ix1 l)) (v1454 (ix1 l))))) (FloatOps.addf (FloatOps.addf (FloatOps.addf (v1455 (ix1 l)) (v1456 (ix1 l))) (FloatOps.addf (v1457 (ix1 l)) (FloatOps.addf (v1401 (ix1 l)) (v1406 (ix1 l))))) (FloatOps.addf (FloatOps.addf (FloatOps.addf (v1411 (ix1 l)) (v1416 (ix1 l))) (FloatOps.addf (v1421 (ix1 l)) (v1426 (ix1 l)))) (FloatOps.addf (FloatOps.addf (v1431 (ix1 l)) (v1436 (ix1 l))) (FloatOps.addf (v1441 (ix1 l)) (v1446 (ix1 l)))))) := by
  unfold k3_pay525
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k3_pay525_tree (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (w : Fin 32 → F .f32) (l : Fin 16)
    (h_v1447 : v1447 (ix1 l) = FloatOps.addf (w 0) (w 1))
    (h_v1448 : v1448 (ix1 l) = FloatOps.addf (w 2) (w 3))
    (h_v1449 : v1449 (ix1 l) = FloatOps.addf (w 4) (w 5))
    (h_v1450 : v1450 (ix1 l) = FloatOps.addf (w 6) (w 7))
    (h_v1451 : v1451 (ix1 l) = FloatOps.addf (w 8) (w 9))
    (h_v1452 : v1452 (ix1 l) = FloatOps.addf (w 10) (w 11))
    (h_v1453 : v1453 (ix1 l) = FloatOps.addf (w 12) (w 13))
    (h_v1454 : v1454 (ix1 l) = FloatOps.addf (w 14) (w 15))
    (h_v1455 : v1455 (ix1 l) = FloatOps.addf (w 16) (w 17))
    (h_v1456 : v1456 (ix1 l) = FloatOps.addf (w 18) (w 19))
    (h_v1457 : v1457 (ix1 l) = FloatOps.addf (w 20) (w 21))
    (h_v1401 : v1401 (ix1 l) = w 22)
    (h_v1406 : v1406 (ix1 l) = w 23)
    (h_v1411 : v1411 (ix1 l) = w 24)
    (h_v1416 : v1416 (ix1 l) = w 25)
    (h_v1421 : v1421 (ix1 l) = w 26)
    (h_v1426 : v1426 (ix1 l) = w 27)
    (h_v1431 : v1431 (ix1 l) = w 28)
    (h_v1436 : v1436 (ix1 l) = w 29)
    (h_v1441 : v1441 (ix1 l) = w 30)
    (h_v1446 : v1446 (ix1 l) = w 31) :
    k3_pay525 v1401 v1406 v1411 v1416 v1421 v1426 v1431 v1436 v1441 v1446 v1447 v1448 v1449 v1450 v1451 v1452 v1453 v1454 v1455 v1456 v1457 (ix3 (0 : Fin 1) (0 : Fin 1) l) = tree32 w := by
  unfold k3_pay525
  refine (cast_116 _ l).trans ?_
  exact congrArg₂ FloatOps.addf (congrArg₂ FloatOps.addf (congrArg₂ FloatOps.addf (congrArg₂ FloatOps.addf (h_v1447) (h_v1448)) (congrArg₂ FloatOps.addf (h_v1449) (h_v1450))) (congrArg₂ FloatOps.addf (congrArg₂ FloatOps.addf (h_v1451) (h_v1452)) (congrArg₂ FloatOps.addf (h_v1453) (h_v1454)))) (congrArg₂ FloatOps.addf (congrArg₂ FloatOps.addf (congrArg₂ FloatOps.addf (h_v1455) (h_v1456)) (congrArg₂ FloatOps.addf (h_v1457) (congrArg₂ FloatOps.addf (h_v1401) (h_v1406)))) (congrArg₂ FloatOps.addf (congrArg₂ FloatOps.addf (congrArg₂ FloatOps.addf (h_v1411) (h_v1416)) (congrArg₂ FloatOps.addf (h_v1421) (h_v1426))) (congrArg₂ FloatOps.addf (congrArg₂ FloatOps.addf (h_v1431) (h_v1436)) (congrArg₂ FloatOps.addf (h_v1441) (h_v1446)))))

theorem k3_pay526_lane (v1486 : Vec F S1x1x16 .f32) (l : Fin 16) :
    k3_pay526 v1486 (ix1 l) = v1486 (ix3 (0 : Fin 1) (0 : Fin 1) l) := by
  unfold k3_pay526
  exact cast_16 v1486 l

theorem k3_pay527_lane (v1491 : Vec F S1x1x16 .f32) (l : Fin 16) :
    k3_pay527 v1491 (ix1 l) = v1491 (ix3 (0 : Fin 1) (0 : Fin 1) l) := by
  unfold k3_pay527
  exact cast_16 v1491 l

theorem k3_pay528_lane (v1496 : Vec F S1x1x16 .f32) (l : Fin 16) :
    k3_pay528 v1496 (ix1 l) = v1496 (ix3 (0 : Fin 1) (0 : Fin 1) l) := by
  unfold k3_pay528
  exact cast_16 v1496 l

theorem k3_pay529_lane (v1501 : Vec F S1x1x16 .f32) (l : Fin 16) :
    k3_pay529 v1501 (ix1 l) = v1501 (ix3 (0 : Fin 1) (0 : Fin 1) l) := by
  unfold k3_pay529
  exact cast_16 v1501 l

theorem k3_pay530_lane (v1506 : Vec F S1x1x16 .f32) (l : Fin 16) :
    k3_pay530 v1506 (ix1 l) = v1506 (ix3 (0 : Fin 1) (0 : Fin 1) l) := by
  unfold k3_pay530
  exact cast_16 v1506 l

theorem k3_pay531_lane (v1511 : Vec F S1x1x16 .f32) (l : Fin 16) :
    k3_pay531 v1511 (ix1 l) = v1511 (ix3 (0 : Fin 1) (0 : Fin 1) l) := by
  unfold k3_pay531
  exact cast_16 v1511 l

theorem k3_pay532_lane (v1516 : Vec F S1x1x16 .f32) (l : Fin 16) :
    k3_pay532 v1516 (ix1 l) = v1516 (ix3 (0 : Fin 1) (0 : Fin 1) l) := by
  unfold k3_pay532
  exact cast_16 v1516 l

theorem k3_pay533_lane (v1521 : Vec F S1x1x16 .f32) (l : Fin 16) :
    k3_pay533 v1521 (ix1 l) = v1521 (ix3 (0 : Fin 1) (0 : Fin 1) l) := by
  unfold k3_pay533
  exact cast_16 v1521 l

theorem k3_pay534_lane (v1526 : Vec F S1x1x16 .f32) (l : Fin 16) :
    k3_pay534 v1526 (ix1 l) = v1526 (ix3 (0 : Fin 1) (0 : Fin 1) l) := by
  unfold k3_pay534
  exact cast_16 v1526 l

theorem k3_pay535_lane (v1531 : Vec F S1x1x16 .f32) (l : Fin 16) :
    k3_pay535 v1531 (ix1 l) = v1531 (ix3 (0 : Fin 1) (0 : Fin 1) l) := by
  unfold k3_pay535
  exact cast_16 v1531 l

theorem k3_pay536_lane (v1536 : Vec F S1x1x16 .f32) (l : Fin 16) :
    k3_pay536 v1536 (ix1 l) = v1536 (ix3 (0 : Fin 1) (0 : Fin 1) l) := by
  unfold k3_pay536
  exact cast_16 v1536 l

theorem k3_pay537_lane (v1541 : Vec F S1x1x16 .f32) (l : Fin 16) :
    k3_pay537 v1541 (ix1 l) = v1541 (ix3 (0 : Fin 1) (0 : Fin 1) l) := by
  unfold k3_pay537
  exact cast_16 v1541 l

theorem k3_pay538_lane (v1546 : Vec F S1x1x16 .f32) (l : Fin 16) :
    k3_pay538 v1546 (ix1 l) = v1546 (ix3 (0 : Fin 1) (0 : Fin 1) l) := by
  unfold k3_pay538
  exact cast_16 v1546 l

theorem k3_pay539_lane (v1551 : Vec F S1x1x16 .f32) (l : Fin 16) :
    k3_pay539 v1551 (ix1 l) = v1551 (ix3 (0 : Fin 1) (0 : Fin 1) l) := by
  unfold k3_pay539
  exact cast_16 v1551 l

theorem k3_pay540_lane (v1556 : Vec F S1x1x16 .f32) (l : Fin 16) :
    k3_pay540 v1556 (ix1 l) = v1556 (ix3 (0 : Fin 1) (0 : Fin 1) l) := by
  unfold k3_pay540
  exact cast_16 v1556 l

theorem k3_pay541_lane (v1561 : Vec F S1x1x16 .f32) (l : Fin 16) :
    k3_pay541 v1561 (ix1 l) = v1561 (ix3 (0 : Fin 1) (0 : Fin 1) l) := by
  unfold k3_pay541
  exact cast_16 v1561 l

theorem k3_pay542_lane (v1566 : Vec F S1x1x16 .f32) (l : Fin 16) :
    k3_pay542 v1566 (ix1 l) = v1566 (ix3 (0 : Fin 1) (0 : Fin 1) l) := by
  unfold k3_pay542
  exact cast_16 v1566 l

theorem k3_pay543_lane (v1571 : Vec F S1x1x16 .f32) (l : Fin 16) :
    k3_pay543 v1571 (ix1 l) = v1571 (ix3 (0 : Fin 1) (0 : Fin 1) l) := by
  unfold k3_pay543
  exact cast_16 v1571 l

theorem k3_pay544_lane (v1576 : Vec F S1x1x16 .f32) (l : Fin 16) :
    k3_pay544 v1576 (ix1 l) = v1576 (ix3 (0 : Fin 1) (0 : Fin 1) l) := by
  unfold k3_pay544
  exact cast_16 v1576 l

theorem k3_pay545_lane (v1581 : Vec F S1x1x16 .f32) (l : Fin 16) :
    k3_pay545 v1581 (ix1 l) = v1581 (ix3 (0 : Fin 1) (0 : Fin 1) l) := by
  unfold k3_pay545
  exact cast_16 v1581 l

theorem k3_pay546_lane (v1586 : Vec F S1x1x16 .f32) (l : Fin 16) :
    k3_pay546 v1586 (ix1 l) = v1586 (ix3 (0 : Fin 1) (0 : Fin 1) l) := by
  unfold k3_pay546
  exact cast_16 v1586 l

theorem k3_pay547_lane (v1591 : Vec F S1x1x16 .f32) (l : Fin 16) :
    k3_pay547 v1591 (ix1 l) = v1591 (ix3 (0 : Fin 1) (0 : Fin 1) l) := by
  unfold k3_pay547
  exact cast_16 v1591 l

theorem k3_pay548_lane (v1596 : Vec F S1x1x16 .f32) (l : Fin 16) :
    k3_pay548 v1596 (ix1 l) = v1596 (ix3 (0 : Fin 1) (0 : Fin 1) l) := by
  unfold k3_pay548
  exact cast_16 v1596 l

theorem k3_pay549_lane (v1601 : Vec F S1x1x16 .f32) (l : Fin 16) :
    k3_pay549 v1601 (ix1 l) = v1601 (ix3 (0 : Fin 1) (0 : Fin 1) l) := by
  unfold k3_pay549
  exact cast_16 v1601 l

theorem k3_pay550_lane (v1606 : Vec F S1x1x16 .f32) (l : Fin 16) :
    k3_pay550 v1606 (ix1 l) = v1606 (ix3 (0 : Fin 1) (0 : Fin 1) l) := by
  unfold k3_pay550
  exact cast_16 v1606 l

theorem k3_pay551_lane (v1611 : Vec F S1x1x16 .f32) (l : Fin 16) :
    k3_pay551 v1611 (ix1 l) = v1611 (ix3 (0 : Fin 1) (0 : Fin 1) l) := by
  unfold k3_pay551
  exact cast_16 v1611 l

theorem k3_pay552_lane (v1487 : FVec F S16 .f32) (v1492 : FVec F S16 .f32) (l : Fin 16) :
    k3_pay552 v1487 v1492 (ix1 l) = FloatOps.addf (v1487 (ix1 l)) (v1492 (ix1 l)) := by
  unfold k3_pay552
  exact congrArg₂ FloatOps.addf (rfl) (rfl)

theorem k3_pay553_lane (v1497 : FVec F S16 .f32) (v1502 : FVec F S16 .f32) (l : Fin 16) :
    k3_pay553 v1497 v1502 (ix1 l) = FloatOps.addf (v1497 (ix1 l)) (v1502 (ix1 l)) := by
  unfold k3_pay553
  exact congrArg₂ FloatOps.addf (rfl) (rfl)

theorem k3_pay554_lane (v1507 : FVec F S16 .f32) (v1512 : FVec F S16 .f32) (l : Fin 16) :
    k3_pay554 v1507 v1512 (ix1 l) = FloatOps.addf (v1507 (ix1 l)) (v1512 (ix1 l)) := by
  unfold k3_pay554
  exact congrArg₂ FloatOps.addf (rfl) (rfl)

theorem k3_pay555_lane (v1517 : FVec F S16 .f32) (v1522 : FVec F S16 .f32) (l : Fin 16) :
    k3_pay555 v1517 v1522 (ix1 l) = FloatOps.addf (v1517 (ix1 l)) (v1522 (ix1 l)) := by
  unfold k3_pay555
  exact congrArg₂ FloatOps.addf (rfl) (rfl)

theorem k3_pay556_lane (v1527 : FVec F S16 .f32) (v1532 : FVec F S16 .f32) (l : Fin 16) :
    k3_pay556 v1527 v1532 (ix1 l) = FloatOps.addf (v1527 (ix1 l)) (v1532 (ix1 l)) := by
  unfold k3_pay556
  exact congrArg₂ FloatOps.addf (rfl) (rfl)

theorem k3_pay557_lane (v1537 : FVec F S16 .f32) (v1542 : FVec F S16 .f32) (l : Fin 16) :
    k3_pay557 v1537 v1542 (ix1 l) = FloatOps.addf (v1537 (ix1 l)) (v1542 (ix1 l)) := by
  unfold k3_pay557
  exact congrArg₂ FloatOps.addf (rfl) (rfl)

theorem k3_pay558_lane (v1547 : FVec F S16 .f32) (v1552 : FVec F S16 .f32) (l : Fin 16) :
    k3_pay558 v1547 v1552 (ix1 l) = FloatOps.addf (v1547 (ix1 l)) (v1552 (ix1 l)) := by
  unfold k3_pay558
  exact congrArg₂ FloatOps.addf (rfl) (rfl)

theorem k3_pay559_lane (v1557 : FVec F S16 .f32) (v1562 : FVec F S16 .f32) (l : Fin 16) :
    k3_pay559 v1557 v1562 (ix1 l) = FloatOps.addf (v1557 (ix1 l)) (v1562 (ix1 l)) := by
  unfold k3_pay559
  exact congrArg₂ FloatOps.addf (rfl) (rfl)

theorem k3_pay560_lane (v1567 : FVec F S16 .f32) (v1572 : FVec F S16 .f32) (l : Fin 16) :
    k3_pay560 v1567 v1572 (ix1 l) = FloatOps.addf (v1567 (ix1 l)) (v1572 (ix1 l)) := by
  unfold k3_pay560
  exact congrArg₂ FloatOps.addf (rfl) (rfl)

theorem k3_pay561_lane (v1577 : FVec F S16 .f32) (v1582 : FVec F S16 .f32) (l : Fin 16) :
    k3_pay561 v1577 v1582 (ix1 l) = FloatOps.addf (v1577 (ix1 l)) (v1582 (ix1 l)) := by
  unfold k3_pay561
  exact congrArg₂ FloatOps.addf (rfl) (rfl)

theorem k3_pay562_lane (v1587 : FVec F S16 .f32) (v1592 : FVec F S16 .f32) (l : Fin 16) :
    k3_pay562 v1587 v1592 (ix1 l) = FloatOps.addf (v1587 (ix1 l)) (v1592 (ix1 l)) := by
  unfold k3_pay562
  exact congrArg₂ FloatOps.addf (rfl) (rfl)

theorem k3_pay563_lane (v1597 : FVec F S16 .f32) (v1602 : FVec F S16 .f32) (l : Fin 16) :
    k3_pay563 v1597 v1602 (ix1 l) = FloatOps.addf (v1597 (ix1 l)) (v1602 (ix1 l)) := by
  unfold k3_pay563
  exact congrArg₂ FloatOps.addf (rfl) (rfl)

theorem k3_pay564_lane (v1607 : FVec F S16 .f32) (v1612 : FVec F S16 .f32) (l : Fin 16) :
    k3_pay564 v1607 v1612 (ix1 l) = FloatOps.addf (v1607 (ix1 l)) (v1612 (ix1 l)) := by
  unfold k3_pay564
  exact congrArg₂ FloatOps.addf (rfl) (rfl)

theorem k3_pay565_lane (v1616 : Vec F S1x1x16 .f32) (v1621 : Vec F S1x1x16 .f32) (l : Fin 16) :
    k3_pay565 v1616 v1621 (ix1 l) = FloatOps.addf (v1616 (ix3 (0 : Fin 1) (0 : Fin 1) l)) (v1621 (ix3 (0 : Fin 1) (0 : Fin 1) l)) := by
  unfold k3_pay565
  exact congrArg₂ FloatOps.addf (cast_16 v1616 l) (cast_16 v1621 l)

theorem k3_pay566_lane (v1626 : Vec F S1x1x16 .f32) (v1631 : Vec F S1x1x16 .f32) (l : Fin 16) :
    k3_pay566 v1626 v1631 (ix1 l) = FloatOps.addf (v1626 (ix3 (0 : Fin 1) (0 : Fin 1) l)) (v1631 (ix3 (0 : Fin 1) (0 : Fin 1) l)) := by
  unfold k3_pay566
  exact congrArg₂ FloatOps.addf (cast_16 v1626 l) (cast_16 v1631 l)

theorem k3_pay567_lane (v1636 : Vec F S1x1x16 .f32) (v1641 : Vec F S1x1x16 .f32) (l : Fin 16) :
    k3_pay567 v1636 v1641 (ix1 l) = FloatOps.addf (v1636 (ix3 (0 : Fin 1) (0 : Fin 1) l)) (v1641 (ix3 (0 : Fin 1) (0 : Fin 1) l)) := by
  unfold k3_pay567
  exact congrArg₂ FloatOps.addf (cast_16 v1636 l) (cast_16 v1641 l)

theorem k3_pay568_lane (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (l : Fin 16) :
    k3_pay568 v1643 v1644 v1645 v1646 v1647 v1648 v1649 v1650 v1651 v1652 v1653 v1654 v1655 v1656 v1657 v1658 (ix1 l) = FloatOps.addf (FloatOps.addf (FloatOps.addf (FloatOps.addf (v1643 (ix1 l)) (v1644 (ix1 l))) (FloatOps.addf (v1645 (ix1 l)) (v1646 (ix1 l)))) (FloatOps.addf (FloatOps.addf (v1647 (ix1 l)) (v1648 (ix1 l))) (FloatOps.addf (v1649 (ix1 l)) (v1650 (ix1 l))))) (FloatOps.addf (FloatOps.addf (FloatOps.addf (v1651 (ix1 l)) (v1652 (ix1 l))) (FloatOps.addf (v1653 (ix1 l)) (v1654 (ix1 l)))) (FloatOps.addf (FloatOps.addf (v1655 (ix1 l)) (v1656 (ix1 l))) (FloatOps.addf (v1657 (ix1 l)) (v1658 (ix1 l))))) := by
  unfold k3_pay568
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))

theorem k3_pay568_tree (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (w : Fin 32 → F .f32) (l : Fin 16)
    (h_v1643 : v1643 (ix1 l) = FloatOps.addf (w 0) (w 1))
    (h_v1644 : v1644 (ix1 l) = FloatOps.addf (w 2) (w 3))
    (h_v1645 : v1645 (ix1 l) = FloatOps.addf (w 4) (w 5))
    (h_v1646 : v1646 (ix1 l) = FloatOps.addf (w 6) (w 7))
    (h_v1647 : v1647 (ix1 l) = FloatOps.addf (w 8) (w 9))
    (h_v1648 : v1648 (ix1 l) = FloatOps.addf (w 10) (w 11))
    (h_v1649 : v1649 (ix1 l) = FloatOps.addf (w 12) (w 13))
    (h_v1650 : v1650 (ix1 l) = FloatOps.addf (w 14) (w 15))
    (h_v1651 : v1651 (ix1 l) = FloatOps.addf (w 16) (w 17))
    (h_v1652 : v1652 (ix1 l) = FloatOps.addf (w 18) (w 19))
    (h_v1653 : v1653 (ix1 l) = FloatOps.addf (w 20) (w 21))
    (h_v1654 : v1654 (ix1 l) = FloatOps.addf (w 22) (w 23))
    (h_v1655 : v1655 (ix1 l) = FloatOps.addf (w 24) (w 25))
    (h_v1656 : v1656 (ix1 l) = FloatOps.addf (w 26) (w 27))
    (h_v1657 : v1657 (ix1 l) = FloatOps.addf (w 28) (w 29))
    (h_v1658 : v1658 (ix1 l) = FloatOps.addf (w 30) (w 31)) :
    k3_pay568 v1643 v1644 v1645 v1646 v1647 v1648 v1649 v1650 v1651 v1652 v1653 v1654 v1655 v1656 v1657 v1658 (ix1 l) = tree32 w := by
  unfold k3_pay568
  exact congrArg₂ FloatOps.addf (congrArg₂ FloatOps.addf (congrArg₂ FloatOps.addf (congrArg₂ FloatOps.addf (h_v1643) (h_v1644)) (congrArg₂ FloatOps.addf (h_v1645) (h_v1646))) (congrArg₂ FloatOps.addf (congrArg₂ FloatOps.addf (h_v1647) (h_v1648)) (congrArg₂ FloatOps.addf (h_v1649) (h_v1650)))) (congrArg₂ FloatOps.addf (congrArg₂ FloatOps.addf (congrArg₂ FloatOps.addf (h_v1651) (h_v1652)) (congrArg₂ FloatOps.addf (h_v1653) (h_v1654))) (congrArg₂ FloatOps.addf (congrArg₂ FloatOps.addf (h_v1655) (h_v1656)) (congrArg₂ FloatOps.addf (h_v1657) (h_v1658))))

theorem k3_pay569_lane (v1673 : FVec F S16 .f32) (l : Fin 16) :
    k3_pay569 v1673 (ix3 (0 : Fin 1) (0 : Fin 1) l) = v1673 (ix1 l) := by
  unfold k3_pay569
  exact cast_116 v1673 l

theorem k3_pay570_lane (v1673 : FVec F S16 .f32) (l : Fin 16) :
    k3_pay570 v1673 (ix3 (0 : Fin 1) (0 : Fin 1) l) = v1673 (ix1 l) := by
  unfold k3_pay570
  exact cast_116 v1673 l

end Cert.Proof.KI

end
-- ==== Proof.ScTree0C1.lean ====
import proofs.«205366_g3083786518796_cont_9to1_852_38_alg».proof.Proof.ScTree3

/-!
# The second SparseCore kernel's summing payloads

The second kernel is the first kernel's text printed again, so its payloads have the same lane and tree lemmas.
-/
-- ==== Proof.BodyInnerC1.lean ====
import proofs.«205366_g3083786518796_cont_9to1_852_38_alg».proof.Proof.BodyLemmasC1
import proofs.«205366_g3083786518796_cont_9to1_852_38_alg».proof.Proof.ScTree0C1
import Idealize.ShloMosaic.Lib.Writes
import Idealize.ShloMosaic.Lib.ValueIdx

noncomputable section

/-!
# One trip of a tile's inner loop, with what it stores named

A trip of the inner loop takes one row `r` of one slot of the output scratch: for each of the eight groups of 16
lanes it loads the 32 gathered rows `32·r … 32·r + 31` of the same slot of the row scratch at those lanes, adds them in
five levels of pairwise sums, and stores the 16 sums.  After the trip the output scratch holds, at row `r` of that
slot, lane by lane the balanced tree of the 32 gathered numbers, and is unchanged everywhere else; the row scratch is
only read.
-/

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KI (tree32)

variable {F : FTy → Type}

variable [FloatOps F]
variable {U : Type} [URA U] [CountersIn U]

local notation "𝕄" => MT nD τ sig (HIx 3) (Elt F) ℕ U ℕ
local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

section Inner
variable (d : Dev nD) (L : grid3.Coords)

theorem trips_t2 : k3_t2_loop.trips = 4 := by decide
theorem trips_t3 : k3_t3_loop.trips = 4 := by decide
theorem k2_lt (k2 : Fin k3_t2_loop.trips) : k2.val < 4 := lt_of_lt_of_eq k2.isLt trips_t2
theorem k3_lt (k3 : Fin k3_t3_loop.trips) : k3.val < 4 := lt_of_lt_of_eq k3.isLt trips_t3

/-- An index of a [1,1,16] block is its lane. -/
theorem exists_lane (x : S1x1x16.Idx) : ∃ l : Fin 16, x = ix3 (0 : Fin 1) (0 : Fin 1) l := by
  refine ⟨x 2, ?_⟩
  funext a
  match a with
  | ⟨0, _⟩ => exact (Subsingleton.elim (α := Fin 1) _ _)
  | ⟨1, _⟩ => exact (Subsingleton.elim (α := Fin 1) _ _)
  | ⟨2, _⟩ => rfl

/-- A 16-lane load of the row scratch at slot `s`, row `R`, lanes from `c`: its lane `l` is the scratch's entry there. -/
theorem ld_lane (o : Fin 3 → Nat) (s : Fin 2) (R c : Nat) (hR : R < 128) (hc : c + 16 ≤ 128) (ho : o = ![s.val, R, c])
    (h : ∀ a, o a + S1x1x16.size a ≤ S2x128x128.size a) (fr : Buf (Elt F) ((V d (cV L) (jV L)).loc cc3_scratch1)) (l : Fin 16) :
    View.readAt (Elt F) (Memref.whole cc3_scratch1).view (Rect.unit (s := S2x128x128) o S1x1x16.size h).toLoadRect fr
        (ix3 (0 : Fin 1) (0 : Fin 1) l)
      = fr (ix3 s (⟨R, hR⟩ : Fin 128) (⟨c + l.val, by omega⟩ : Fin 128)) := by
  subst ho
  rw [View.readAt_apply]
  show fr ((Rect.unit (s := S2x128x128) ![s.val, R, c] S1x1x16.size h).toLoadRect.idx (ix3 (0 : Fin 1) (0 : Fin 1) l)) = _
  refine congrArg fr ?_
  funext a; apply Fin.ext
  match a with
  | ⟨0, _⟩ => show s.val + 1 * 0 = s.val; omega
  | ⟨1, _⟩ => show R + 1 * 0 = R; omega
  | ⟨2, _⟩ => show c + 1 * l.val = c + l.val; omega

/-- What row `r` of slot `s` of the output scratch is to hold at an index `y` of that row: the tree of the 32 gathered
    numbers, rows `32·r …` of slot `s` of the row scratch at `y`'s lane. -/
def scrSum (s : Fin 2) (fr : Buf (Elt F) ((V d (cV L) (jV L)).loc cc3_scratch1)) (r : Nat) (hr : r < 4) (y : S2x4x128.Idx) : F .f32 :=
  tree32 fun k : Fin 32 => fr (ix3 s (⟨32 * r + k.val, by omega⟩ : Fin 128) (y 2))

set_option maxHeartbeats 4000000 in
/-- Trip `kk` of slot 0's inner loop: the row scratch is only read; the output scratch ends with row `kk` of
    slot 0 at the trees of the 32 gathered rows, lane by lane, and is unchanged off that row.  (The contents are read
    through the whole buffer's view, `View.read … f = f`.) -/
theorem inner_trip0 (k : Fin k3_t1_loop.trips) (kk : Fin k3_t2_loop.trips)
    (fr : Buf (Elt F) ((V d (cV L) (jV L)).loc cc3_scratch1)) (fob : Buf (Elt F) ((V d (cV L) (jV L)).loc cc3_scratch2))
    (v2 : BitVec 32) :
    iprop(((rwV).view.loc (V d (cV L) (jV L)) ↦[Finset.univ \ (rwK1).view.set]{fullShare} fr)
      ∗ ((obV).view.loc (V d (cV L) (jV L)) ↦[Finset.univ \ (obK1).view.set]{fullShare} fob))
      ⊢ (wp frame (wpE (defs₀ (F := F)) 𝒱₀ (V d (cV L) (jV L)) none) Set.univ
          (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k kk ())
          fun _ => iprop(((rwV).view.loc (V d (cV L) (jV L)) ↦[Finset.univ \ (rwK1).view.set]{fullShare} fr)
            ∗ ∃ fob'' : Buf (Elt F) ((V d (cV L) (jV L)).loc cc3_scratch2), ((obV).view.loc (V d (cV L) (jV L)) ↦[Finset.univ \ (obK1).view.set]{fullShare} fob'')
              ∗ ⌜(∀ (g : Fin 8) (l : Fin 16), View.read (Elt F) (Memref.whole cc3_scratch2).view fob'' (ix3 (0 : Fin 2) (⟨kk.val, k2_lt kk⟩ : Fin 4) (⟨16 * g.val + l.val, by omega⟩ : Fin 128))
                    = scrSum d L (0 : Fin 2) fr kk.val (k2_lt kk) (ix3 (0 : Fin 2) (⟨kk.val, k2_lt kk⟩ : Fin 4) (⟨16 * g.val + l.val, by omega⟩ : Fin 128)))
                ∧ (∀ y : S2x4x128.Idx, ¬((y 0).val = 0 ∧ (y 1).val = kk.val) →
                    View.read (Elt F) (Memref.whole cc3_scratch2).view fob'' y = View.read (Elt F) (Memref.whole cc3_scratch2).view fob y)⌝) : sProp 𝕄) := by
  iintro ⟨Hrw, Hob⟩
  unfold k3_t2_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc3_scratch2).view fob (scrSum d L (0 : Fin 2) fr kk.val (k2_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (0 : Fin 2) fr kk.val (k2_lt kk) ((Rect.unit (s := S2x4x128) (k3_off19 kk) S1x1x16.size (k3_off19_inb kk)).emb (ix3 (0 : Fin 1) (0 : Fin 1) l'))
        simp only [Cert.Proof.KI.k3_pay569_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off18 kk (BitVec.ofNat 32 k.val)) S1x1x16.size (k3_off18_inb kk k)).toLoadRect fr (ix3 (0 : Fin 1) (0 : Fin 1) l')) rfl ?_
        refine (congrArg tree32 (funext fun k => ld_lane d L _ (0 : Fin 2) (32 * kk.val + k.val) 112 (by have := k2_lt kk; omega) (by omega) (k3_off18_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 112 + l'.val = k3_off19 kk 2 + 1 * l'.val
        rw [k3_off19_eq]
        show 112 + l'.val = 112 + 1 * l'.val
        omega
      · -- lane group 6: lanes 96 … 111
        intro x
        obtain ⟨l', rfl⟩ := exists_lane x
        show _ = scrSum d L (0 : Fin 2) fr kk.val (k2_lt kk) ((Rect.unit (s := S2x4x128) (k3_off17 kk) S1x1x16.size (k3_off17_inb kk)).emb (ix3 (0 : Fin 1) (0 : Fin 1) l'))
        simp only [Cert.Proof.KI.k3_pay241_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off16 kk (BitVec.ofNat 32 k.val)) S1x1x16.size (k3_off16_inb kk k)).toLoadRect fr (ix3 (0 : Fin 1) (0 : Fin 1) l')) rfl ?_
        refine (congrArg tree32 (funext fun k => ld_lane d L _ (0 : Fin 2) (32 * kk.val + k.val) 96 (by have := k2_lt kk; omega) (by omega) (k3_off16_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 96 + l'.val = k3_off17 kk 2 + 1 * l'.val
        rw [k3_off17_eq]
        show 96 + l'.val = 96 + 1 * l'.val
        omega
      · -- lane group 5: lanes 80 … 95
        intro x
        obtain ⟨l', rfl⟩ := exists_lane x
        show _ = scrSum d L (0 : Fin 2) fr kk.val (k2_lt kk) ((Rect.unit (s := S2x4x128) (k3_off15 kk) S1x1x16.size (k3_off15_inb kk)).emb (ix3 (0 : Fin 1) (0 : Fin 1) l'))
        simp only [Cert.Proof.KI.k3_pay197_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off14 kk (BitVec.ofNat 32 k.val)) S1x1x16.size (k3_off14_inb kk k)).toLoadRect fr (ix3 (0 : Fin 1) (0 : Fin 1) l')) rfl ?_
        refine (congrArg tree32 (funext fun k => ld_lane d L _ (0 : Fin 2) (32 * kk.val + k.val) 80 (by have := k2_lt kk; omega) (by omega) (k3_off14_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 80 + l'.val = k3_off15 kk 2 + 1 * l'.val
        rw [k3_off15_eq]
        show 80 + l'.val = 80 + 1 * l'.val
        omega
      · -- lane group 4: lanes 64 … 79
        intro x
        obtain ⟨l', rfl⟩ := exists_lane x
        show _ = scrSum d L (0 : Fin 2) fr kk.val (k2_lt kk) ((Rect.unit (s := S2x4x128) (k3_off13 kk) S1x1x16.size (k3_off13_inb kk)).emb (ix3 (0 : Fin 1) (0 : Fin 1) l'))
        simp only [Cert.Proof.KI.k3_pay158_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off12 kk (BitVec.ofNat 32 k.val)) S1x1x16.size (k3_off12_inb kk k)).toLoadRect fr (ix3 (0 : Fin 1) (0 : Fin 1) l')) rfl ?_
        refine (congrArg tree32 (funext fun k => ld_lane d L _ (0 : Fin 2) (32 * kk.val + k.val) 64 (by have := k2_lt kk; omega) (by omega) (k3_off12_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 64 + l'.val = k3_off13 kk 2 + 1 * l'.val
        rw [k3_off13_eq]
        show 64 + l'.val = 64 + 1 * l'.val
        omega
      · -- lane group 3: lanes 48 … 63
        intro x
        obtain ⟨l', rfl⟩ := exists_lane x
        show _ = scrSum d L (0 : Fin 2) fr kk.val (k2_lt kk) ((Rect.unit (s := S2x4x128) (k3_off11 kk) S1x1x16.size (k3_off11_inb kk)).emb (ix3 (0 : Fin 1) (0 : Fin 1) l'))
        simp only [Cert.Proof.KI.k3_pay124_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off10 kk (BitVec.ofNat 32 k.val)) S1x1x16.size (k3_off10_inb kk k)).toLoadRect fr (ix3 (0 : Fin 1) (0 : Fin 1) l')) rfl ?_
        refine (congrArg tree32 (funext fun k => ld_lane d L _ (0 : Fin 2) (32 * kk.val + k.val) 48 (by have := k2_lt kk; omega) (by omega) (k3_off10_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 48 + l'.val = k3_off11 kk 2 + 1 * l'.val
        rw [k3_off11_eq]
        show 48 + l'.val = 48 + 1 * l'.val
        omega
      · -- lane group 2: lanes 32 … 47
        intro x
        obtain ⟨l', rfl⟩ := exists_lane x
        show _ = scrSum d L (0 : Fin 2) fr kk.val (k2_lt kk) ((Rect.unit (s := S2x4x128) (k3_off9 kk) S1x1x16.size (k3_off9_inb kk)).emb (ix3 (0 : Fin 1) (0 : Fin 1) l'))
        simp only [Cert.Proof.KI.k3_pay92_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off8 kk (BitVec.ofNat 32 k.val)) S1x1x16.size (k3_off8_inb kk k)).toLoadRect fr (ix3 (0 : Fin 1) (0 : Fin 1) l')) rfl ?_
        refine (congrArg tree32 (funext fun k => ld_lane d L _ (0 : Fin 2) (32 * kk.val + k.val) 32 (by have := k2_lt kk; omega) (by omega) (k3_off8_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 32 + l'.val = k3_off9 kk 2 + 1 * l'.val
        rw [k3_off9_eq]
        show 32 + l'.val = 32 + 1 * l'.val
        omega
      · -- lane group 1: lanes 16 … 31
        intro x
        obtain ⟨l', rfl⟩ := exists_lane x
        show _ = scrSum d L (0 : Fin 2) fr kk.val (k2_lt kk) ((Rect.unit (s := S2x4x128) (k3_off7 kk) S1x1x16.size (k3_off7_inb kk)).emb (ix3 (0 : Fin 1) (0 : Fin 1) l'))
        simp only [Cert.Proof.KI.k3_pay61_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off6 kk (BitVec.ofNat 32 k.val)) S1x1x16.size (k3_off6_inb kk k)).toLoadRect fr (ix3 (0 : Fin 1) (0 : Fin 1) l')) rfl ?_
        refine (congrArg tree32 (funext fun k => ld_lane d L _ (0 : Fin 2) (32 * kk.val + k.val) 16 (by have := k2_lt kk; omega) (by omega) (k3_off6_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 16 + l'.val = k3_off7 kk 2 + 1 * l'.val
        rw [k3_off7_eq]
        show 16 + l'.val = 16 + 1 * l'.val
        omega
      · -- lane group 0: lanes 0 … 15
        intro x
        obtain ⟨l', rfl⟩ := exists_lane x
        show _ = scrSum d L (0 : Fin 2) fr kk.val (k2_lt kk) ((Rect.unit (s := S2x4x128) (k3_off5 kk) S1x1x16.size (k3_off5_inb kk)).emb (ix3 (0 : Fin 1) (0 : Fin 1) l'))
        simp only [Cert.Proof.KI.k3_pay30_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off4 kk (BitVec.ofNat 32 k.val)) S1x1x16.size (k3_off4_inb kk k)).toLoadRect fr (ix3 (0 : Fin 1) (0 : Fin 1) l')) rfl ?_
        refine (congrArg tree32 (funext fun k => ld_lane d L _ (0 : Fin 2) (32 * kk.val + k.val) 0 (by have := k2_lt kk; omega) (by omega) (k3_off4_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 0 + l'.val = k3_off5 kk 2 + 1 * l'.val
        rw [k3_off5_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (0 : Fin 2) (⟨kk.val, k2_lt kk⟩ : Fin 4) (⟨16 * 0 + l.val, by omega⟩ : Fin 128)) ∈ (Rect.unit (s := S2x4x128) (k3_off5 kk) S1x1x16.size (k3_off5_inb kk)).set
        rw [Rect.mem_set_unit, k3_off5_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (0 : Fin 2) (⟨kk.val, k2_lt kk⟩ : Fin 4) (⟨16 * 1 + l.val, by omega⟩ : Fin 128)) ∈ (Rect.unit (s := S2x4x128) (k3_off7 kk) S1x1x16.size (k3_off7_inb kk)).set
        rw [Rect.mem_set_unit, k3_off7_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (0 : Fin 2) (⟨kk.val, k2_lt kk⟩ : Fin 4) (⟨16 * 2 + l.val, by omega⟩ : Fin 128)) ∈ (Rect.unit (s := S2x4x128) (k3_off9 kk) S1x1x16.size (k3_off9_inb kk)).set
        rw [Rect.mem_set_unit, k3_off9_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (0 : Fin 2) (⟨kk.val, k2_lt kk⟩ : Fin 4) (⟨16 * 3 + l.val, by omega⟩ : Fin 128)) ∈ (Rect.unit (s := S2x4x128) (k3_off11 kk) S1x1x16.size (k3_off11_inb kk)).set
        rw [Rect.mem_set_unit, k3_off11_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (0 : Fin 2) (⟨kk.val, k2_lt kk⟩ : Fin 4) (⟨16 * 4 + l.val, by omega⟩ : Fin 128)) ∈ (Rect.unit (s := S2x4x128) (k3_off13 kk) S1x1x16.size (k3_off13_inb kk)).set
        rw [Rect.mem_set_unit, k3_off13_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (0 : Fin 2) (⟨kk.val, k2_lt kk⟩ : Fin 4) (⟨16 * 5 + l.val, by omega⟩ : Fin 128)) ∈ (Rect.unit (s := S2x4x128) (k3_off15 kk) S1x1x16.size (k3_off15_inb kk)).set
        rw [Rect.mem_set_unit, k3_off15_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (0 : Fin 2) (⟨kk.val, k2_lt kk⟩ : Fin 4) (⟨16 * 6 + l.val, by omega⟩ : Fin 128)) ∈ (Rect.unit (s := S2x4x128) (k3_off17 kk) S1x1x16.size (k3_off17_inb kk)).set
        rw [Rect.mem_set_unit, k3_off17_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (0 : Fin 2) (⟨kk.val, k2_lt kk⟩ : Fin 4) (⟨16 * 7 + l.val, by omega⟩ : Fin 128)) ∈ (Rect.unit (s := S2x4x128) (k3_off19 kk) S1x1x16.size (k3_off19_inb kk)).set
        rw [Rect.mem_set_unit, k3_off19_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc3_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k3_off19 kk) S1x1x16.size (k3_off19_inb kk)).set := hm
      rw [Rect.mem_set_unit, k3_off19_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 6
      intro hm
      have hm' : y ∈ (Rect.unit (s := S2x4x128) (k3_off17 kk) S1x1x16.size (k3_off17_inb kk)).set := hm
      rw [Rect.mem_set_unit, k3_off17_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 5
      intro hm
      have hm' : y ∈ (Rect.unit (s := S2x4x128) (k3_off15 kk) S1x1x16.size (k3_off15_inb kk)).set := hm
      rw [Rect.mem_set_unit, k3_off15_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 4
      intro hm
      have hm' : y ∈ (Rect.unit (s := S2x4x128) (k3_off13 kk) S1x1x16.size (k3_off13_inb kk)).set := hm
      rw [Rect.mem_set_unit, k3_off13_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 3
      intro hm
      have hm' : y ∈ (Rect.unit (s := S2x4x128) (k3_off11 kk) S1x1x16.size (k3_off11_inb kk)).set := hm
      rw [Rect.mem_set_unit, k3_off11_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 2
      intro hm
      have hm' : y ∈ (Rect.unit (s := S2x4x128) (k3_off9 kk) S1x1x16.size (k3_off9_inb kk)).set := hm
      rw [Rect.mem_set_unit, k3_off9_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 1
      intro hm
      have hm' : y ∈ (Rect.unit (s := S2x4x128) (k3_off7 kk) S1x1x16.size (k3_off7_inb kk)).set := hm
      rw [Rect.mem_set_unit, k3_off7_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 0
      intro hm
      have hm' : y ∈ (Rect.unit (s := S2x4x128) (k3_off5 kk) S1x1x16.size (k3_off5_inb kk)).set := hm
      rw [Rect.mem_set_unit, k3_off5_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩

set_option maxHeartbeats 4000000 in
/-- Trip `kk` of slot 0's inner loop while the output scratch is still held whole: the row scratch is only read; the output scratch ends with row `kk` of
    slot 0 at the trees of the 32 gathered rows, lane by lane, and is unchanged off that row.  (The contents are read
    through the whole buffer's view, `View.read … f = f`.) -/
theorem inner_trip0_first (k : Fin k3_t1_loop.trips) (kk : Fin k3_t2_loop.trips)
    (fr : Buf (Elt F) ((V d (cV L) (jV L)).loc cc3_scratch1)) (fob : Buf (Elt F) ((V d (cV L) (jV L)).loc cc3_scratch2))
    (v2 : BitVec 32) :
    iprop(((rwV).view.loc (V d (cV L) (jV L)) ↦[Finset.univ \ (rwK1).view.set]{fullShare} fr)
      ∗ ((obV).view.loc (V d (cV L) (jV L)) ↦{fullShare} fob))
      ⊢ (wp frame (wpE (defs₀ (F := F)) 𝒱₀ (V d (cV L) (jV L)) none) Set.univ
          (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k kk ())
          fun _ => iprop(((rwV).view.loc (V d (cV L) (jV L)) ↦[Finset.univ \ (rwK1).view.set]{fullShare} fr)
            ∗ ∃ fob'' : Buf (Elt F) ((V d (cV L) (jV L)).loc cc3_scratch2), ((obV).view.loc (V d (cV L) (jV L)) ↦{fullShare} fob'')
              ∗ ⌜(∀ (g : Fin 8) (l : Fin 16), View.read (Elt F) (Memref.whole cc3_scratch2).view fob'' (ix3 (0 : Fin 2) (⟨kk.val, k2_lt kk⟩ : Fin 4) (⟨16 * g.val + l.val, by omega⟩ : Fin 128))
                    = scrSum d L (0 : Fin 2) fr kk.val (k2_lt kk) (ix3 (0 : Fin 2) (⟨kk.val, k2_lt kk⟩ : Fin 4) (⟨16 * g.val + l.val, by omega⟩ : Fin 128)))
                ∧ (∀ y : S2x4x128.Idx, ¬((y 0).val = 0 ∧ (y 1).val = kk.val) →
                    View.read (Elt F) (Memref.whole cc3_scratch2).view fob'' y = View.read (Elt F) (Memref.whole cc3_scratch2).view fob y)⌝) : sProp 𝕄) := by
  iintro ⟨Hrw, Hob⟩
  unfold k3_t2_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc3_scratch2).view fob (scrSum d L (0 : Fin 2) fr kk.val (k2_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (0 : Fin 2) fr kk.val (k2_lt kk) ((Rect.unit (s := S2x4x128) (k3_off19 kk) S1x1x16.size (k3_off19_inb kk)).emb (ix3 (0 : Fin 1) (0 : Fin 1) l'))
        simp only [Cert.Proof.KI.k3_pay569_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off18 kk (BitVec.ofNat 32 k.val)) S1x1x16.size (k3_off18_inb kk k)).toLoadRect fr (ix3 (0 : Fin 1) (0 : Fin 1) l')) rfl ?_
        refine (congrArg tree32 (funext fun k => ld_lane d L _ (0 : Fin 2) (32 * kk.val + k.val) 112 (by have := k2_lt kk; omega) (by omega) (k3_off18_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 112 + l'.val = k3_off19 kk 2 + 1 * l'.val
        rw [k3_off19_eq]
        show 112 + l'.val = 112 + 1 * l'.val
        omega
      · -- lane group 6: lanes 96 … 111
        intro x
        obtain ⟨l', rfl⟩ := exists_lane x
        show _ = scrSum d L (0 : Fin 2) fr kk.val (k2_lt kk) ((Rect.unit (s := S2x4x128) (k3_off17 kk) S1x1x16.size (k3_off17_inb kk)).emb (ix3 (0 : Fin 1) (0 : Fin 1) l'))
        simp only [Cert.Proof.KI.k3_pay241_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off16 kk (BitVec.ofNat 32 k.val)) S1x1x16.size (k3_off16_inb kk k)).toLoadRect fr (ix3 (0 : Fin 1) (0 : Fin 1) l')) rfl ?_
        refine (congrArg tree32 (funext fun k => ld_lane d L _ (0 : Fin 2) (32 * kk.val + k.val) 96 (by have := k2_lt kk; omega) (by omega) (k3_off16_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 96 + l'.val = k3_off17 kk 2 + 1 * l'.val
        rw [k3_off17_eq]
        show 96 + l'.val = 96 + 1 * l'.val
        omega
      · -- lane group 5: lanes 80 … 95
        intro x
        obtain ⟨l', rfl⟩ := exists_lane x
        show _ = scrSum d L (0 : Fin 2) fr kk.val (k2_lt kk) ((Rect.unit (s := S2x4x128) (k3_off15 kk) S1x1x16.size (k3_off15_inb kk)).emb (ix3 (0 : Fin 1) (0 : Fin 1) l'))
        simp only [Cert.Proof.KI.k3_pay197_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off14 kk (BitVec.ofNat 32 k.val)) S1x1x16.size (k3_off14_inb kk k)).toLoadRect fr (ix3 (0 : Fin 1) (0 : Fin 1) l')) rfl ?_
        refine (congrArg tree32 (funext fun k => ld_lane d L _ (0 : Fin 2) (32 * kk.val + k.val) 80 (by have := k2_lt kk; omega) (by omega) (k3_off14_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 80 + l'.val = k3_off15 kk 2 + 1 * l'.val
        rw [k3_off15_eq]
        show 80 + l'.val = 80 + 1 * l'.val
        omega
      · -- lane group 4: lanes 64 … 79
        intro x
        obtain ⟨l', rfl⟩ := exists_lane x
        show _ = scrSum d L (0 : Fin 2) fr kk.val (k2_lt kk) ((Rect.unit (s := S2x4x128) (k3_off13 kk) S1x1x16.size (k3_off13_inb kk)).emb (ix3 (0 : Fin 1) (0 : Fin 1) l'))
        simp only [Cert.Proof.KI.k3_pay158_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off12 kk (BitVec.ofNat 32 k.val)) S1x1x16.size (k3_off12_inb kk k)).toLoadRect fr (ix3 (0 : Fin 1) (0 : Fin 1) l')) rfl ?_
        refine (congrArg tree32 (funext fun k => ld_lane d L _ (0 : Fin 2) (32 * kk.val + k.val) 64 (by have := k2_lt kk; omega) (by omega) (k3_off12_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 64 + l'.val = k3_off13 kk 2 + 1 * l'.val
        rw [k3_off13_eq]
        show 64 + l'.val = 64 + 1 * l'.val
        omega
      · -- lane group 3: lanes 48 … 63
        intro x
        obtain ⟨l', rfl⟩ := exists_lane x
        show _ = scrSum d L (0 : Fin 2) fr kk.val (k2_lt kk) ((Rect.unit (s := S2x4x128) (k3_off11 kk) S1x1x16.size (k3_off11_inb kk)).emb (ix3 (0 : Fin 1) (0 : Fin 1) l'))
        simp only [Cert.Proof.KI.k3_pay124_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off10 kk (BitVec.ofNat 32 k.val)) S1x1x16.size (k3_off10_inb kk k)).toLoadRect fr (ix3 (0 : Fin 1) (0 : Fin 1) l')) rfl ?_
        refine (congrArg tree32 (funext fun k => ld_lane d L _ (0 : Fin 2) (32 * kk.val + k.val) 48 (by have := k2_lt kk; omega) (by omega) (k3_off10_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 48 + l'.val = k3_off11 kk 2 + 1 * l'.val
        rw [k3_off11_eq]
        show 48 + l'.val = 48 + 1 * l'.val
        omega
      · -- lane group 2: lanes 32 … 47
        intro x
        obtain ⟨l', rfl⟩ := exists_lane x
        show _ = scrSum d L (0 : Fin 2) fr kk.val (k2_lt kk) ((Rect.unit (s := S2x4x128) (k3_off9 kk) S1x1x16.size (k3_off9_inb kk)).emb (ix3 (0 : Fin 1) (0 : Fin 1) l'))
        simp only [Cert.Proof.KI.k3_pay92_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off8 kk (BitVec.ofNat 32 k.val)) S1x1x16.size (k3_off8_inb kk k)).toLoadRect fr (ix3 (0 : Fin 1) (0 : Fin 1) l')) rfl ?_
        refine (congrArg tree32 (funext fun k => ld_lane d L _ (0 : Fin 2) (32 * kk.val + k.val) 32 (by have := k2_lt kk; omega) (by omega) (k3_off8_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 32 + l'.val = k3_off9 kk 2 + 1 * l'.val
        rw [k3_off9_eq]
        show 32 + l'.val = 32 + 1 * l'.val
        omega
      · -- lane group 1: lanes 16 … 31
        intro x
        obtain ⟨l', rfl⟩ := exists_lane x
        show _ = scrSum d L (0 : Fin 2) fr kk.val (k2_lt kk) ((Rect.unit (s := S2x4x128) (k3_off7 kk) S1x1x16.size (k3_off7_inb kk)).emb (ix3 (0 : Fin 1) (0 : Fin 1) l'))
        simp only [Cert.Proof.KI.k3_pay61_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off6 kk (BitVec.ofNat 32 k.val)) S1x1x16.size (k3_off6_inb kk k)).toLoadRect fr (ix3 (0 : Fin 1) (0 : Fin 1) l')) rfl ?_
        refine (congrArg tree32 (funext fun k => ld_lane d L _ (0 : Fin 2) (32 * kk.val + k.val) 16 (by have := k2_lt kk; omega) (by omega) (k3_off6_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 16 + l'.val = k3_off7 kk 2 + 1 * l'.val
        rw [k3_off7_eq]
        show 16 + l'.val = 16 + 1 * l'.val
        omega
      · -- lane group 0: lanes 0 … 15
        intro x
        obtain ⟨l', rfl⟩ := exists_lane x
        show _ = scrSum d L (0 : Fin 2) fr kk.val (k2_lt kk) ((Rect.unit (s := S2x4x128) (k3_off5 kk) S1x1x16.size (k3_off5_inb kk)).emb (ix3 (0 : Fin 1) (0 : Fin 1) l'))
        simp only [Cert.Proof.KI.k3_pay30_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off4 kk (BitVec.ofNat 32 k.val)) S1x1x16.size (k3_off4_inb kk k)).toLoadRect fr (ix3 (0 : Fin 1) (0 : Fin 1) l')) rfl ?_
        refine (congrArg tree32 (funext fun k => ld_lane d L _ (0 : Fin 2) (32 * kk.val + k.val) 0 (by have := k2_lt kk; omega) (by omega) (k3_off4_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 0 + l'.val = k3_off5 kk 2 + 1 * l'.val
        rw [k3_off5_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (0 : Fin 2) (⟨kk.val, k2_lt kk⟩ : Fin 4) (⟨16 * 0 + l.val, by omega⟩ : Fin 128)) ∈ (Rect.unit (s := S2x4x128) (k3_off5 kk) S1x1x16.size (k3_off5_inb kk)).set
        rw [Rect.mem_set_unit, k3_off5_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (0 : Fin 2) (⟨kk.val, k2_lt kk⟩ : Fin 4) (⟨16 * 1 + l.val, by omega⟩ : Fin 128)) ∈ (Rect.unit (s := S2x4x128) (k3_off7 kk) S1x1x16.size (k3_off7_inb kk)).set
        rw [Rect.mem_set_unit, k3_off7_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (0 : Fin 2) (⟨kk.val, k2_lt kk⟩ : Fin 4) (⟨16 * 2 + l.val, by omega⟩ : Fin 128)) ∈ (Rect.unit (s := S2x4x128) (k3_off9 kk) S1x1x16.size (k3_off9_inb kk)).set
        rw [Rect.mem_set_unit, k3_off9_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (0 : Fin 2) (⟨kk.val, k2_lt kk⟩ : Fin 4) (⟨16 * 3 + l.val, by omega⟩ : Fin 128)) ∈ (Rect.unit (s := S2x4x128) (k3_off11 kk) S1x1x16.size (k3_off11_inb kk)).set
        rw [Rect.mem_set_unit, k3_off11_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (0 : Fin 2) (⟨kk.val, k2_lt kk⟩ : Fin 4) (⟨16 * 4 + l.val, by omega⟩ : Fin 128)) ∈ (Rect.unit (s := S2x4x128) (k3_off13 kk) S1x1x16.size (k3_off13_inb kk)).set
        rw [Rect.mem_set_unit, k3_off13_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (0 : Fin 2) (⟨kk.val, k2_lt kk⟩ : Fin 4) (⟨16 * 5 + l.val, by omega⟩ : Fin 128)) ∈ (Rect.unit (s := S2x4x128) (k3_off15 kk) S1x1x16.size (k3_off15_inb kk)).set
        rw [Rect.mem_set_unit, k3_off15_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (0 : Fin 2) (⟨kk.val, k2_lt kk⟩ : Fin 4) (⟨16 * 6 + l.val, by omega⟩ : Fin 128)) ∈ (Rect.unit (s := S2x4x128) (k3_off17 kk) S1x1x16.size (k3_off17_inb kk)).set
        rw [Rect.mem_set_unit, k3_off17_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (0 : Fin 2) (⟨kk.val, k2_lt kk⟩ : Fin 4) (⟨16 * 7 + l.val, by omega⟩ : Fin 128)) ∈ (Rect.unit (s := S2x4x128) (k3_off19 kk) S1x1x16.size (k3_off19_inb kk)).set
        rw [Rect.mem_set_unit, k3_off19_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc3_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k3_off19 kk) S1x1x16.size (k3_off19_inb kk)).set := hm
      rw [Rect.mem_set_unit, k3_off19_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 6
      intro hm
      have hm' : y ∈ (Rect.unit (s := S2x4x128) (k3_off17 kk) S1x1x16.size (k3_off17_inb kk)).set := hm
      rw [Rect.mem_set_unit, k3_off17_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 5
      intro hm
      have hm' : y ∈ (Rect.unit (s := S2x4x128) (k3_off15 kk) S1x1x16.size (k3_off15_inb kk)).set := hm
      rw [Rect.mem_set_unit, k3_off15_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 4
      intro hm
      have hm' : y ∈ (Rect.unit (s := S2x4x128) (k3_off13 kk) S1x1x16.size (k3_off13_inb kk)).set := hm
      rw [Rect.mem_set_unit, k3_off13_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 3
      intro hm
      have hm' : y ∈ (Rect.unit (s := S2x4x128) (k3_off11 kk) S1x1x16.size (k3_off11_inb kk)).set := hm
      rw [Rect.mem_set_unit, k3_off11_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 2
      intro hm
      have hm' : y ∈ (Rect.unit (s := S2x4x128) (k3_off9 kk) S1x1x16.size (k3_off9_inb kk)).set := hm
      rw [Rect.mem_set_unit, k3_off9_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 1
      intro hm
      have hm' : y ∈ (Rect.unit (s := S2x4x128) (k3_off7 kk) S1x1x16.size (k3_off7_inb kk)).set := hm
      rw [Rect.mem_set_unit, k3_off7_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 0
      intro hm
      have hm' : y ∈ (Rect.unit (s := S2x4x128) (k3_off5 kk) S1x1x16.size (k3_off5_inb kk)).set := hm
      rw [Rect.mem_set_unit, k3_off5_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩

set_option maxHeartbeats 4000000 in
/-- Trip `kk` of slot 1's inner loop: the row scratch is only read; the output scratch ends with row `kk` of
    slot 1 at the trees of the 32 gathered rows, lane by lane, and is unchanged off that row.  (The contents are read
    through the whole buffer's view, `View.read … f = f`.) -/
theorem inner_trip1 (k : Fin k3_t1_loop.trips) (kk : Fin k3_t3_loop.trips)
    (fr : Buf (Elt F) ((V d (cV L) (jV L)).loc cc3_scratch1)) (fob : Buf (Elt F) ((V d (cV L) (jV L)).loc cc3_scratch2))
    (v2 : BitVec 32) (arg11 : BitVec 32) :
    iprop(((rwV).view.loc (V d (cV L) (jV L)) ↦[Finset.univ \ (rwK0).view.set]{fullShare} fr)
      ∗ ((obV).view.loc (V d (cV L) (jV L)) ↦[Finset.univ \ (obK0).view.set]{fullShare} fob))
      ⊢ (wp frame (wpE (defs₀ (F := F)) 𝒱₀ (V d (cV L) (jV L)) none) Set.univ
          (k3_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k arg11 kk ())
          fun _ => iprop(((rwV).view.loc (V d (cV L) (jV L)) ↦[Finset.univ \ (rwK0).view.set]{fullShare} fr)
            ∗ ∃ fob'' : Buf (Elt F) ((V d (cV L) (jV L)).loc cc3_scratch2), ((obV).view.loc (V d (cV L) (jV L)) ↦[Finset.univ \ (obK0).view.set]{fullShare} fob'')
              ∗ ⌜(∀ (g : Fin 8) (l : Fin 16), View.read (Elt F) (Memref.whole cc3_scratch2).view fob'' (ix3 (1 : Fin 2) (⟨kk.val, k3_lt kk⟩ : Fin 4) (⟨16 * g.val + l.val, by omega⟩ : Fin 128))
                    = scrSum d L (1 : Fin 2) fr kk.val (k3_lt kk) (ix3 (1 : Fin 2) (⟨kk.val, k3_lt kk⟩ : Fin 4) (⟨16 * g.val + l.val, by omega⟩ : Fin 128)))
                ∧ (∀ y : S2x4x128.Idx, ¬((y 0).val = 1 ∧ (y 1).val = kk.val) →
                    View.read (Elt F) (Memref.whole cc3_scratch2).view fob'' y = View.read (Elt F) (Memref.whole cc3_scratch2).view fob y)⌝) : sProp 𝕄) := by
  iintro ⟨Hrw, Hob⟩
  unfold k3_t3_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc3_scratch2).view fob (scrSum d L (1 : Fin 2) fr kk.val (k3_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (1 : Fin 2) fr kk.val (k3_lt kk) ((Rect.unit (s := S2x4x128) (k3_off38 kk) S1x1x16.size (k3_off38_inb kk)).emb (ix3 (0 : Fin 1) (0 : Fin 1) l'))
        simp only [Cert.Proof.KI.k3_pay570_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off37 kk (BitVec.ofNat 32 k.val)) S1x1x16.size (k3_off37_inb kk k)).toLoadRect fr (ix3 (0 : Fin 1) (0 : Fin 1) l')) rfl ?_
        refine (congrArg tree32 (funext fun k => ld_lane d L _ (1 : Fin 2) (32 * kk.val + k.val) 112 (by have := k3_lt kk; omega) (by omega) (k3_off37_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 112 + l'.val = k3_off38 kk 2 + 1 * l'.val
        rw [k3_off38_eq]
        show 112 + l'.val = 112 + 1 * l'.val
        omega
      · -- lane group 6: lanes 96 … 111
        intro x
        obtain ⟨l', rfl⟩ := exists_lane x
        show _ = scrSum d L (1 : Fin 2) fr kk.val (k3_lt kk) ((Rect.unit (s := S2x4x128) (k3_off36 kk) S1x1x16.size (k3_off36_inb kk)).emb (ix3 (0 : Fin 1) (0 : Fin 1) l'))
        simp only [Cert.Proof.KI.k3_pay525_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off35 kk (BitVec.ofNat 32 k.val)) S1x1x16.size (k3_off35_inb kk k)).toLoadRect fr (ix3 (0 : Fin 1) (0 : Fin 1) l')) rfl ?_
        refine (congrArg tree32 (funext fun k => ld_lane d L _ (1 : Fin 2) (32 * kk.val + k.val) 96 (by have := k3_lt kk; omega) (by omega) (k3_off35_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 96 + l'.val = k3_off36 kk 2 + 1 * l'.val
        rw [k3_off36_eq]
        show 96 + l'.val = 96 + 1 * l'.val
        omega
      · -- lane group 5: lanes 80 … 95
        intro x
        obtain ⟨l', rfl⟩ := exists_lane x
        show _ = scrSum d L (1 : Fin 2) fr kk.val (k3_lt kk) ((Rect.unit (s := S2x4x128) (k3_off34 kk) S1x1x16.size (k3_off34_inb kk)).emb (ix3 (0 : Fin 1) (0 : Fin 1) l'))
        simp only [Cert.Proof.KI.k3_pay481_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off33 kk (BitVec.ofNat 32 k.val)) S1x1x16.size (k3_off33_inb kk k)).toLoadRect fr (ix3 (0 : Fin 1) (0 : Fin 1) l')) rfl ?_
        refine (congrArg tree32 (funext fun k => ld_lane d L _ (1 : Fin 2) (32 * kk.val + k.val) 80 (by have := k3_lt kk; omega) (by omega) (k3_off33_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 80 + l'.val = k3_off34 kk 2 + 1 * l'.val
        rw [k3_off34_eq]
        show 80 + l'.val = 80 + 1 * l'.val
        omega
      · -- lane group 4: lanes 64 … 79
        intro x
        obtain ⟨l', rfl⟩ := exists_lane x
        show _ = scrSum d L (1 : Fin 2) fr kk.val (k3_lt kk) ((Rect.unit (s := S2x4x128) (k3_off32 kk) S1x1x16.size (k3_off32_inb kk)).emb (ix3 (0 : Fin 1) (0 : Fin 1) l'))
        simp only [Cert.Proof.KI.k3_pay442_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off31 kk (BitVec.ofNat 32 k.val)) S1x1x16.size (k3_off31_inb kk k)).toLoadRect fr (ix3 (0 : Fin 1) (0 : Fin 1) l')) rfl ?_
        refine (congrArg tree32 (funext fun k => ld_lane d L _ (1 : Fin 2) (32 * kk.val + k.val) 64 (by have := k3_lt kk; omega) (by omega) (k3_off31_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 64 + l'.val = k3_off32 kk 2 + 1 * l'.val
        rw [k3_off32_eq]
        show 64 + l'.val = 64 + 1 * l'.val
        omega
      · -- lane group 3: lanes 48 … 63
        intro x
        obtain ⟨l', rfl⟩ := exists_lane x
        show _ = scrSum d L (1 : Fin 2) fr kk.val (k3_lt kk) ((Rect.unit (s := S2x4x128) (k3_off30 kk) S1x1x16.size (k3_off30_inb kk)).emb (ix3 (0 : Fin 1) (0 : Fin 1) l'))
        simp only [Cert.Proof.KI.k3_pay408_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off29 kk (BitVec.ofNat 32 k.val)) S1x1x16.size (k3_off29_inb kk k)).toLoadRect fr (ix3 (0 : Fin 1) (0 : Fin 1) l')) rfl ?_
        refine (congrArg tree32 (funext fun k => ld_lane d L _ (1 : Fin 2) (32 * kk.val + k.val) 48 (by have := k3_lt kk; omega) (by omega) (k3_off29_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 48 + l'.val = k3_off30 kk 2 + 1 * l'.val
        rw [k3_off30_eq]
        show 48 + l'.val = 48 + 1 * l'.val
        omega
      · -- lane group 2: lanes 32 … 47
        intro x
        obtain ⟨l', rfl⟩ := exists_lane x
        show _ = scrSum d L (1 : Fin 2) fr kk.val (k3_lt kk) ((Rect.unit (s := S2x4x128) (k3_off28 kk) S1x1x16.size (k3_off28_inb kk)).emb (ix3 (0 : Fin 1) (0 : Fin 1) l'))
        simp only [Cert.Proof.KI.k3_pay376_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off27 kk (BitVec.ofNat 32 k.val)) S1x1x16.size (k3_off27_inb kk k)).toLoadRect fr (ix3 (0 : Fin 1) (0 : Fin 1) l')) rfl ?_
        refine (congrArg tree32 (funext fun k => ld_lane d L _ (1 : Fin 2) (32 * kk.val + k.val) 32 (by have := k3_lt kk; omega) (by omega) (k3_off27_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 32 + l'.val = k3_off28 kk 2 + 1 * l'.val
        rw [k3_off28_eq]
        show 32 + l'.val = 32 + 1 * l'.val
        omega
      · -- lane group 1: lanes 16 … 31
        intro x
        obtain ⟨l', rfl⟩ := exists_lane x
        show _ = scrSum d L (1 : Fin 2) fr kk.val (k3_lt kk) ((Rect.unit (s := S2x4x128) (k3_off26 kk) S1x1x16.size (k3_off26_inb kk)).emb (ix3 (0 : Fin 1) (0 : Fin 1) l'))
        simp only [Cert.Proof.KI.k3_pay345_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off25 kk (BitVec.ofNat 32 k.val)) S1x1x16.size (k3_off25_inb kk k)).toLoadRect fr (ix3 (0 : Fin 1) (0 : Fin 1) l')) rfl ?_
        refine (congrArg tree32 (funext fun k => ld_lane d L _ (1 : Fin 2) (32 * kk.val + k.val) 16 (by have := k3_lt kk; omega) (by omega) (k3_off25_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 16 + l'.val = k3_off26 kk 2 + 1 * l'.val
        rw [k3_off26_eq]
        show 16 + l'.val = 16 + 1 * l'.val
        omega
      · -- lane group 0: lanes 0 … 15
        intro x
        obtain ⟨l', rfl⟩ := exists_lane x
        show _ = scrSum d L (1 : Fin 2) fr kk.val (k3_lt kk) ((Rect.unit (s := S2x4x128) (k3_off24 kk) S1x1x16.size (k3_off24_inb kk)).emb (ix3 (0 : Fin 1) (0 : Fin 1) l'))
        simp only [Cert.Proof.KI.k3_pay314_lane]
        sl_unfold_run_names
        simp only [Cert.Proof.KI.k3_pay1_lane, Cert.Proof.KI.k3_pay2_lane, Cert.Proof.KI.k3_pay3_lane, Cert.Proof.KI.k3_pay4_lane, Cert.Proof.KI.k3_pay5_lane, Cert.Proof.KI.k3_pay6_lane, Cert.Proof.KI.k3_pay7_lane, Cert.Proof.KI.k3_pay8_lane, Cert.Proof.KI.k3_pay9_lane, Cert.Proof.KI.k3_pay10_lane, Cert.Proof.KI.k3_pay11_lane, Cert.Proof.KI.k3_pay12_lane, Cert.Proof.KI.k3_pay13_lane, Cert.Proof.KI.k3_pay14_lane, Cert.Proof.KI.k3_pay15_lane, Cert.Proof.KI.k3_pay16_lane, Cert.Proof.KI.k3_pay17_lane, Cert.Proof.KI.k3_pay18_lane, Cert.Proof.KI.k3_pay19_lane, Cert.Proof.KI.k3_pay20_lane, Cert.Proof.KI.k3_pay21_lane, Cert.Proof.KI.k3_pay22_lane, Cert.Proof.KI.k3_pay23_lane, Cert.Proof.KI.k3_pay24_lane, Cert.Proof.KI.k3_pay25_lane, Cert.Proof.KI.k3_pay26_lane, Cert.Proof.KI.k3_pay27_lane, Cert.Proof.KI.k3_pay28_lane, Cert.Proof.KI.k3_pay29_lane, Cert.Proof.KI.k3_pay30_lane, Cert.Proof.KI.k3_pay31_lane, Cert.Proof.KI.k3_pay32_lane, Cert.Proof.KI.k3_pay33_lane, Cert.Proof.KI.k3_pay34_lane, Cert.Proof.KI.k3_pay35_lane, Cert.Proof.KI.k3_pay36_lane, Cert.Proof.KI.k3_pay37_lane, Cert.Proof.KI.k3_pay38_lane, Cert.Proof.KI.k3_pay39_lane, Cert.Proof.KI.k3_pay40_lane, Cert.Proof.KI.k3_pay41_lane, Cert.Proof.KI.k3_pay42_lane, Cert.Proof.KI.k3_pay43_lane, Cert.Proof.KI.k3_pay44_lane, Cert.Proof.KI.k3_pay45_lane, Cert.Proof.KI.k3_pay46_lane, Cert.Proof.KI.k3_pay47_lane, Cert.Proof.KI.k3_pay48_lane, Cert.Proof.KI.k3_pay49_lane, Cert.Proof.KI.k3_pay50_lane, Cert.Proof.KI.k3_pay51_lane, Cert.Proof.KI.k3_pay52_lane, Cert.Proof.KI.k3_pay53_lane, Cert.Proof.KI.k3_pay54_lane, Cert.Proof.KI.k3_pay55_lane, Cert.Proof.KI.k3_pay56_lane, Cert.Proof.KI.k3_pay57_lane, Cert.Proof.KI.k3_pay58_lane, Cert.Proof.KI.k3_pay59_lane, Cert.Proof.KI.k3_pay60_lane, Cert.Proof.KI.k3_pay61_lane, Cert.Proof.KI.k3_pay62_lane, Cert.Proof.KI.k3_pay63_lane, Cert.Proof.KI.k3_pay64_lane, Cert.Proof.KI.k3_pay65_lane, Cert.Proof.KI.k3_pay66_lane, Cert.Proof.KI.k3_pay67_lane, Cert.Proof.KI.k3_pay68_lane, Cert.Proof.KI.k3_pay69_lane, Cert.Proof.KI.k3_pay70_lane, Cert.Proof.KI.k3_pay71_lane, Cert.Proof.KI.k3_pay72_lane, Cert.Proof.KI.k3_pay73_lane, Cert.Proof.KI.k3_pay74_lane, Cert.Proof.KI.k3_pay75_lane, Cert.Proof.KI.k3_pay76_lane, Cert.Proof.KI.k3_pay77_lane, Cert.Proof.KI.k3_pay78_lane, Cert.Proof.KI.k3_pay79_lane, Cert.Proof.KI.k3_pay80_lane, Cert.Proof.KI.k3_pay81_lane, Cert.Proof.KI.k3_pay82_lane, Cert.Proof.KI.k3_pay83_lane, Cert.Proof.KI.k3_pay84_lane, Cert.Proof.KI.k3_pay85_lane, Cert.Proof.KI.k3_pay86_lane, Cert.Proof.KI.k3_pay87_lane, Cert.Proof.KI.k3_pay88_lane, Cert.Proof.KI.k3_pay89_lane, Cert.Proof.KI.k3_pay90_lane, Cert.Proof.KI.k3_pay91_lane, Cert.Proof.KI.k3_pay92_lane, Cert.Proof.KI.k3_pay93_lane, Cert.Proof.KI.k3_pay94_lane, Cert.Proof.KI.k3_pay95_lane, Cert.Proof.KI.k3_pay96_lane, Cert.Proof.KI.k3_pay97_lane, Cert.Proof.KI.k3_pay98_lane, Cert.Proof.KI.k3_pay99_lane, Cert.Proof.KI.k3_pay100_lane, Cert.Proof.KI.k3_pay101_lane, Cert.Proof.KI.k3_pay102_lane, Cert.Proof.KI.k3_pay103_lane, Cert.Proof.KI.k3_pay104_lane, Cert.Proof.KI.k3_pay105_lane, Cert.Proof.KI.k3_pay106_lane, Cert.Proof.KI.k3_pay107_lane, Cert.Proof.KI.k3_pay108_lane, Cert.Proof.KI.k3_pay109_lane, Cert.Proof.KI.k3_pay110_lane, Cert.Proof.KI.k3_pay111_lane, Cert.Proof.KI.k3_pay112_lane, Cert.Proof.KI.k3_pay113_lane, Cert.Proof.KI.k3_pay114_lane, Cert.Proof.KI.k3_pay115_lane, Cert.Proof.KI.k3_pay116_lane, Cert.Proof.KI.k3_pay117_lane, Cert.Proof.KI.k3_pay118_lane, Cert.Proof.KI.k3_pay119_lane, Cert.Proof.KI.k3_pay120_lane, Cert.Proof.KI.k3_pay121_lane, Cert.Proof.KI.k3_pay122_lane, Cert.Proof.KI.k3_pay123_lane, Cert.Proof.KI.k3_pay124_lane, Cert.Proof.KI.k3_pay125_lane, Cert.Proof.KI.k3_pay126_lane, Cert.Proof.KI.k3_pay127_lane, Cert.Proof.KI.k3_pay128_lane, Cert.Proof.KI.k3_pay129_lane, Cert.Proof.KI.k3_pay130_lane, Cert.Proof.KI.k3_pay131_lane, Cert.Proof.KI.k3_pay132_lane, Cert.Proof.KI.k3_pay133_lane, Cert.Proof.KI.k3_pay134_lane, Cert.Proof.KI.k3_pay135_lane, Cert.Proof.KI.k3_pay136_lane, Cert.Proof.KI.k3_pay137_lane, Cert.Proof.KI.k3_pay138_lane, Cert.Proof.KI.k3_pay139_lane, Cert.Proof.KI.k3_pay140_lane, Cert.Proof.KI.k3_pay141_lane, Cert.Proof.KI.k3_pay142_lane, Cert.Proof.KI.k3_pay143_lane, Cert.Proof.KI.k3_pay144_lane, Cert.Proof.KI.k3_pay145_lane, Cert.Proof.KI.k3_pay146_lane, Cert.Proof.KI.k3_pay147_lane, Cert.Proof.KI.k3_pay148_lane, Cert.Proof.KI.k3_pay149_lane, Cert.Proof.KI.k3_pay150_lane, Cert.Proof.KI.k3_pay151_lane, Cert.Proof.KI.k3_pay152_lane, Cert.Proof.KI.k3_pay153_lane, Cert.Proof.KI.k3_pay154_lane, Cert.Proof.KI.k3_pay155_lane, Cert.Proof.KI.k3_pay156_lane, Cert.Proof.KI.k3_pay157_lane, Cert.Proof.KI.k3_pay158_lane, Cert.Proof.KI.k3_pay159_lane, Cert.Proof.KI.k3_pay160_lane, Cert.Proof.KI.k3_pay161_lane, Cert.Proof.KI.k3_pay162_lane, Cert.Proof.KI.k3_pay163_lane, Cert.Proof.KI.k3_pay164_lane, Cert.Proof.KI.k3_pay165_lane, Cert.Proof.KI.k3_pay166_lane, Cert.Proof.KI.k3_pay167_lane, Cert.Proof.KI.k3_pay168_lane, Cert.Proof.KI.k3_pay169_lane, Cert.Proof.KI.k3_pay170_lane, Cert.Proof.KI.k3_pay171_lane, Cert.Proof.KI.k3_pay172_lane, Cert.Proof.KI.k3_pay173_lane, Cert.Proof.KI.k3_pay174_lane, Cert.Proof.KI.k3_pay175_lane, Cert.Proof.KI.k3_pay176_lane, Cert.Proof.KI.k3_pay177_lane, Cert.Proof.KI.k3_pay178_lane, Cert.Proof.KI.k3_pay179_lane, Cert.Proof.KI.k3_pay180_lane, Cert.Proof.KI.k3_pay181_lane, Cert.Proof.KI.k3_pay182_lane, Cert.Proof.KI.k3_pay183_lane, Cert.Proof.KI.k3_pay184_lane, Cert.Proof.KI.k3_pay185_lane, Cert.Proof.KI.k3_pay186_lane, Cert.Proof.KI.k3_pay187_lane, Cert.Proof.KI.k3_pay188_lane, Cert.Proof.KI.k3_pay189_lane, Cert.Proof.KI.k3_pay190_lane, Cert.Proof.KI.k3_pay191_lane, Cert.Proof.KI.k3_pay192_lane, Cert.Proof.KI.k3_pay193_lane, Cert.Proof.KI.k3_pay194_lane, Cert.Proof.KI.k3_pay195_lane, Cert.Proof.KI.k3_pay196_lane, Cert.Proof.KI.k3_pay197_lane, Cert.Proof.KI.k3_pay198_lane, Cert.Proof.KI.k3_pay199_lane, Cert.Proof.KI.k3_pay200_lane, Cert.Proof.KI.k3_pay201_lane, Cert.Proof.KI.k3_pay202_lane, Cert.Proof.KI.k3_pay203_lane, Cert.Proof.KI.k3_pay204_lane, Cert.Proof.KI.k3_pay205_lane, Cert.Proof.KI.k3_pay206_lane, Cert.Proof.KI.k3_pay207_lane, Cert.Proof.KI.k3_pay208_lane, Cert.Proof.KI.k3_pay209_lane, Cert.Proof.KI.k3_pay210_lane, Cert.Proof.KI.k3_pay211_lane, Cert.Proof.KI.k3_pay212_lane, Cert.Proof.KI.k3_pay213_lane, Cert.Proof.KI.k3_pay214_lane, Cert.Proof.KI.k3_pay215_lane, Cert.Proof.KI.k3_pay216_lane, Cert.Proof.KI.k3_pay217_lane, Cert.Proof.KI.k3_pay218_lane, Cert.Proof.KI.k3_pay219_lane, Cert.Proof.KI.k3_pay220_lane, Cert.Proof.KI.k3_pay221_lane, Cert.Proof.KI.k3_pay222_lane, Cert.Proof.KI.k3_pay223_lane, Cert.Proof.KI.k3_pay224_lane, Cert.Proof.KI.k3_pay225_lane, Cert.Proof.KI.k3_pay226_lane, Cert.Proof.KI.k3_pay227_lane, Cert.Proof.KI.k3_pay228_lane, Cert.Proof.KI.k3_pay229_lane, Cert.Proof.KI.k3_pay230_lane, Cert.Proof.KI.k3_pay231_lane, Cert.Proof.KI.k3_pay232_lane, Cert.Proof.KI.k3_pay233_lane, Cert.Proof.KI.k3_pay234_lane, Cert.Proof.KI.k3_pay235_lane, Cert.Proof.KI.k3_pay236_lane, Cert.Proof.KI.k3_pay237_lane, Cert.Proof.KI.k3_pay238_lane, Cert.Proof.KI.k3_pay239_lane, Cert.Proof.KI.k3_pay240_lane, Cert.Proof.KI.k3_pay241_lane, Cert.Proof.KI.k3_pay242_lane, Cert.Proof.KI.k3_pay243_lane, Cert.Proof.KI.k3_pay244_lane, Cert.Proof.KI.k3_pay245_lane, Cert.Proof.KI.k3_pay246_lane, Cert.Proof.KI.k3_pay247_lane, Cert.Proof.KI.k3_pay248_lane, Cert.Proof.KI.k3_pay249_lane, Cert.Proof.KI.k3_pay250_lane, Cert.Proof.KI.k3_pay251_lane, Cert.Proof.KI.k3_pay252_lane, Cert.Proof.KI.k3_pay253_lane, Cert.Proof.KI.k3_pay254_lane, Cert.Proof.KI.k3_pay255_lane, Cert.Proof.KI.k3_pay256_lane, Cert.Proof.KI.k3_pay257_lane, Cert.Proof.KI.k3_pay258_lane, Cert.Proof.KI.k3_pay259_lane, Cert.Proof.KI.k3_pay260_lane, Cert.Proof.KI.k3_pay261_lane, Cert.Proof.KI.k3_pay262_lane, Cert.Proof.KI.k3_pay263_lane, Cert.Proof.KI.k3_pay264_lane, Cert.Proof.KI.k3_pay265_lane, Cert.Proof.KI.k3_pay266_lane, Cert.Proof.KI.k3_pay267_lane, Cert.Proof.KI.k3_pay268_lane, Cert.Proof.KI.k3_pay269_lane, Cert.Proof.KI.k3_pay270_lane, Cert.Proof.KI.k3_pay271_lane, Cert.Proof.KI.k3_pay272_lane, Cert.Proof.KI.k3_pay273_lane, Cert.Proof.KI.k3_pay274_lane, Cert.Proof.KI.k3_pay275_lane, Cert.Proof.KI.k3_pay276_lane, Cert.Proof.KI.k3_pay277_lane, Cert.Proof.KI.k3_pay278_lane, Cert.Proof.KI.k3_pay279_lane, Cert.Proof.KI.k3_pay280_lane, Cert.Proof.KI.k3_pay281_lane, Cert.Proof.KI.k3_pay282_lane, Cert.Proof.KI.k3_pay283_lane, Cert.Proof.KI.k3_pay284_lane, Cert.Proof.KI.k3_pay285_lane, Cert.Proof.KI.k3_pay286_lane, Cert.Proof.KI.k3_pay287_lane, Cert.Proof.KI.k3_pay288_lane, Cert.Proof.KI.k3_pay289_lane, Cert.Proof.KI.k3_pay290_lane, Cert.Proof.KI.k3_pay291_lane, Cert.Proof.KI.k3_pay292_lane, Cert.Proof.KI.k3_pay293_lane, Cert.Proof.KI.k3_pay294_lane, Cert.Proof.KI.k3_pay295_lane, Cert.Proof.KI.k3_pay296_lane, Cert.Proof.KI.k3_pay297_lane, Cert.Proof.KI.k3_pay298_lane, Cert.Proof.KI.k3_pay299_lane, Cert.Proof.KI.k3_pay300_lane, Cert.Proof.KI.k3_pay301_lane, Cert.Proof.KI.k3_pay302_lane, Cert.Proof.KI.k3_pay303_lane, Cert.Proof.KI.k3_pay304_lane, Cert.Proof.KI.k3_pay305_lane, Cert.Proof.KI.k3_pay306_lane, Cert.Proof.KI.k3_pay307_lane, Cert.Proof.KI.k3_pay308_lane, Cert.Proof.KI.k3_pay309_lane, Cert.Proof.KI.k3_pay310_lane, Cert.Proof.KI.k3_pay311_lane, Cert.Proof.KI.k3_pay312_lane, Cert.Proof.KI.k3_pay313_lane, Cert.Proof.KI.k3_pay314_lane, Cert.Proof.KI.k3_pay315_lane, Cert.Proof.KI.k3_pay316_lane, Cert.Proof.KI.k3_pay317_lane, Cert.Proof.KI.k3_pay318_lane, Cert.Proof.KI.k3_pay319_lane, Cert.Proof.KI.k3_pay320_lane, Cert.Proof.KI.k3_pay321_lane, Cert.Proof.KI.k3_pay322_lane, Cert.Proof.KI.k3_pay323_lane, Cert.Proof.KI.k3_pay324_lane, Cert.Proof.KI.k3_pay325_lane, Cert.Proof.KI.k3_pay326_lane, Cert.Proof.KI.k3_pay327_lane, Cert.Proof.KI.k3_pay328_lane, Cert.Proof.KI.k3_pay329_lane, Cert.Proof.KI.k3_pay330_lane, Cert.Proof.KI.k3_pay331_lane, Cert.Proof.KI.k3_pay332_lane, Cert.Proof.KI.k3_pay333_lane, Cert.Proof.KI.k3_pay334_lane, Cert.Proof.KI.k3_pay335_lane, Cert.Proof.KI.k3_pay336_lane, Cert.Proof.KI.k3_pay337_lane, Cert.Proof.KI.k3_pay338_lane, Cert.Proof.KI.k3_pay339_lane, Cert.Proof.KI.k3_pay340_lane, Cert.Proof.KI.k3_pay341_lane, Cert.Proof.KI.k3_pay342_lane, Cert.Proof.KI.k3_pay343_lane, Cert.Proof.KI.k3_pay344_lane, Cert.Proof.KI.k3_pay345_lane, Cert.Proof.KI.k3_pay346_lane, Cert.Proof.KI.k3_pay347_lane, Cert.Proof.KI.k3_pay348_lane, Cert.Proof.KI.k3_pay349_lane, Cert.Proof.KI.k3_pay350_lane, Cert.Proof.KI.k3_pay351_lane, Cert.Proof.KI.k3_pay352_lane, Cert.Proof.KI.k3_pay353_lane, Cert.Proof.KI.k3_pay354_lane, Cert.Proof.KI.k3_pay355_lane, Cert.Proof.KI.k3_pay356_lane, Cert.Proof.KI.k3_pay357_lane, Cert.Proof.KI.k3_pay358_lane, Cert.Proof.KI.k3_pay359_lane, Cert.Proof.KI.k3_pay360_lane, Cert.Proof.KI.k3_pay361_lane, Cert.Proof.KI.k3_pay362_lane, Cert.Proof.KI.k3_pay363_lane, Cert.Proof.KI.k3_pay364_lane, Cert.Proof.KI.k3_pay365_lane, Cert.Proof.KI.k3_pay366_lane, Cert.Proof.KI.k3_pay367_lane, Cert.Proof.KI.k3_pay368_lane, Cert.Proof.KI.k3_pay369_lane, Cert.Proof.KI.k3_pay370_lane, Cert.Proof.KI.k3_pay371_lane, Cert.Proof.KI.k3_pay372_lane, Cert.Proof.KI.k3_pay373_lane, Cert.Proof.KI.k3_pay374_lane, Cert.Proof.KI.k3_pay375_lane, Cert.Proof.KI.k3_pay376_lane, Cert.Proof.KI.k3_pay377_lane, Cert.Proof.KI.k3_pay378_lane, Cert.Proof.KI.k3_pay379_lane, Cert.Proof.KI.k3_pay380_lane, Cert.Proof.KI.k3_pay381_lane, Cert.Proof.KI.k3_pay382_lane, Cert.Proof.KI.k3_pay383_lane, Cert.Proof.KI.k3_pay384_lane, Cert.Proof.KI.k3_pay385_lane, Cert.Proof.KI.k3_pay386_lane, Cert.Proof.KI.k3_pay387_lane, Cert.Proof.KI.k3_pay388_lane, Cert.Proof.KI.k3_pay389_lane, Cert.Proof.KI.k3_pay390_lane, Cert.Proof.KI.k3_pay391_lane, Cert.Proof.KI.k3_pay392_lane, Cert.Proof.KI.k3_pay393_lane, Cert.Proof.KI.k3_pay394_lane, Cert.Proof.KI.k3_pay395_lane, Cert.Proof.KI.k3_pay396_lane, Cert.Proof.KI.k3_pay397_lane, Cert.Proof.KI.k3_pay398_lane, Cert.Proof.KI.k3_pay399_lane, Cert.Proof.KI.k3_pay400_lane, Cert.Proof.KI.k3_pay401_lane, Cert.Proof.KI.k3_pay402_lane, Cert.Proof.KI.k3_pay403_lane, Cert.Proof.KI.k3_pay404_lane, Cert.Proof.KI.k3_pay405_lane, Cert.Proof.KI.k3_pay406_lane, Cert.Proof.KI.k3_pay407_lane, Cert.Proof.KI.k3_pay408_lane, Cert.Proof.KI.k3_pay409_lane, Cert.Proof.KI.k3_pay410_lane, Cert.Proof.KI.k3_pay411_lane, Cert.Proof.KI.k3_pay412_lane, Cert.Proof.KI.k3_pay413_lane, Cert.Proof.KI.k3_pay414_lane, Cert.Proof.KI.k3_pay415_lane, Cert.Proof.KI.k3_pay416_lane, Cert.Proof.KI.k3_pay417_lane, Cert.Proof.KI.k3_pay418_lane, Cert.Proof.KI.k3_pay419_lane, Cert.Proof.KI.k3_pay420_lane, Cert.Proof.KI.k3_pay421_lane, Cert.Proof.KI.k3_pay422_lane, Cert.Proof.KI.k3_pay423_lane, Cert.Proof.KI.k3_pay424_lane, Cert.Proof.KI.k3_pay425_lane, Cert.Proof.KI.k3_pay426_lane, Cert.Proof.KI.k3_pay427_lane, Cert.Proof.KI.k3_pay428_lane, Cert.Proof.KI.k3_pay429_lane, Cert.Proof.KI.k3_pay430_lane, Cert.Proof.KI.k3_pay431_lane, Cert.Proof.KI.k3_pay432_lane, Cert.Proof.KI.k3_pay433_lane, Cert.Proof.KI.k3_pay434_lane, Cert.Proof.KI.k3_pay435_lane, Cert.Proof.KI.k3_pay436_lane, Cert.Proof.KI.k3_pay437_lane, Cert.Proof.KI.k3_pay438_lane, Cert.Proof.KI.k3_pay439_lane, Cert.Proof.KI.k3_pay440_lane, Cert.Proof.KI.k3_pay441_lane, Cert.Proof.KI.k3_pay442_lane, Cert.Proof.KI.k3_pay443_lane, Cert.Proof.KI.k3_pay444_lane, Cert.Proof.KI.k3_pay445_lane, Cert.Proof.KI.k3_pay446_lane, Cert.Proof.KI.k3_pay447_lane, Cert.Proof.KI.k3_pay448_lane, Cert.Proof.KI.k3_pay449_lane, Cert.Proof.KI.k3_pay450_lane, Cert.Proof.KI.k3_pay451_lane, Cert.Proof.KI.k3_pay452_lane, Cert.Proof.KI.k3_pay453_lane, Cert.Proof.KI.k3_pay454_lane, Cert.Proof.KI.k3_pay455_lane, Cert.Proof.KI.k3_pay456_lane, Cert.Proof.KI.k3_pay457_lane, Cert.Proof.KI.k3_pay458_lane, Cert.Proof.KI.k3_pay459_lane, Cert.Proof.KI.k3_pay460_lane, Cert.Proof.KI.k3_pay461_lane, Cert.Proof.KI.k3_pay462_lane, Cert.Proof.KI.k3_pay463_lane, Cert.Proof.KI.k3_pay464_lane, Cert.Proof.KI.k3_pay465_lane, Cert.Proof.KI.k3_pay466_lane, Cert.Proof.KI.k3_pay467_lane, Cert.Proof.KI.k3_pay468_lane, Cert.Proof.KI.k3_pay469_lane, Cert.Proof.KI.k3_pay470_lane, Cert.Proof.KI.k3_pay471_lane, Cert.Proof.KI.k3_pay472_lane, Cert.Proof.KI.k3_pay473_lane, Cert.Proof.KI.k3_pay474_lane, Cert.Proof.KI.k3_pay475_lane, Cert.Proof.KI.k3_pay476_lane, Cert.Proof.KI.k3_pay477_lane, Cert.Proof.KI.k3_pay478_lane, Cert.Proof.KI.k3_pay479_lane, Cert.Proof.KI.k3_pay480_lane, Cert.Proof.KI.k3_pay481_lane, Cert.Proof.KI.k3_pay482_lane, Cert.Proof.KI.k3_pay483_lane, Cert.Proof.KI.k3_pay484_lane, Cert.Proof.KI.k3_pay485_lane, Cert.Proof.KI.k3_pay486_lane, Cert.Proof.KI.k3_pay487_lane, Cert.Proof.KI.k3_pay488_lane, Cert.Proof.KI.k3_pay489_lane, Cert.Proof.KI.k3_pay490_lane, Cert.Proof.KI.k3_pay491_lane, Cert.Proof.KI.k3_pay492_lane, Cert.Proof.KI.k3_pay493_lane, Cert.Proof.KI.k3_pay494_lane, Cert.Proof.KI.k3_pay495_lane, Cert.Proof.KI.k3_pay496_lane, Cert.Proof.KI.k3_pay497_lane, Cert.Proof.KI.k3_pay498_lane, Cert.Proof.KI.k3_pay499_lane, Cert.Proof.KI.k3_pay500_lane, Cert.Proof.KI.k3_pay501_lane, Cert.Proof.KI.k3_pay502_lane, Cert.Proof.KI.k3_pay503_lane, Cert.Proof.KI.k3_pay504_lane, Cert.Proof.KI.k3_pay505_lane, Cert.Proof.KI.k3_pay506_lane, Cert.Proof.KI.k3_pay507_lane, Cert.Proof.KI.k3_pay508_lane, Cert.Proof.KI.k3_pay509_lane, Cert.Proof.KI.k3_pay510_lane, Cert.Proof.KI.k3_pay511_lane, Cert.Proof.KI.k3_pay512_lane, Cert.Proof.KI.k3_pay513_lane, Cert.Proof.KI.k3_pay514_lane, Cert.Proof.KI.k3_pay515_lane, Cert.Proof.KI.k3_pay516_lane, Cert.Proof.KI.k3_pay517_lane, Cert.Proof.KI.k3_pay518_lane, Cert.Proof.KI.k3_pay519_lane, Cert.Proof.KI.k3_pay520_lane, Cert.Proof.KI.k3_pay521_lane, Cert.Proof.KI.k3_pay522_lane, Cert.Proof.KI.k3_pay523_lane, Cert.Proof.KI.k3_pay524_lane, Cert.Proof.KI.k3_pay525_lane, Cert.Proof.KI.k3_pay526_lane, Cert.Proof.KI.k3_pay527_lane, Cert.Proof.KI.k3_pay528_lane, Cert.Proof.KI.k3_pay529_lane, Cert.Proof.KI.k3_pay530_lane, Cert.Proof.KI.k3_pay531_lane, Cert.Proof.KI.k3_pay532_lane, Cert.Proof.KI.k3_pay533_lane, Cert.Proof.KI.k3_pay534_lane, Cert.Proof.KI.k3_pay535_lane, Cert.Proof.KI.k3_pay536_lane, Cert.Proof.KI.k3_pay537_lane, Cert.Proof.KI.k3_pay538_lane, Cert.Proof.KI.k3_pay539_lane, Cert.Proof.KI.k3_pay540_lane, Cert.Proof.KI.k3_pay541_lane, Cert.Proof.KI.k3_pay542_lane, Cert.Proof.KI.k3_pay543_lane, Cert.Proof.KI.k3_pay544_lane, Cert.Proof.KI.k3_pay545_lane, Cert.Proof.KI.k3_pay546_lane, Cert.Proof.KI.k3_pay547_lane, Cert.Proof.KI.k3_pay548_lane, Cert.Proof.KI.k3_pay549_lane, Cert.Proof.KI.k3_pay550_lane, Cert.Proof.KI.k3_pay551_lane, Cert.Proof.KI.k3_pay552_lane, Cert.Proof.KI.k3_pay553_lane, Cert.Proof.KI.k3_pay554_lane, Cert.Proof.KI.k3_pay555_lane, Cert.Proof.KI.k3_pay556_lane, Cert.Proof.KI.k3_pay557_lane, Cert.Proof.KI.k3_pay558_lane, Cert.Proof.KI.k3_pay559_lane, Cert.Proof.KI.k3_pay560_lane, Cert.Proof.KI.k3_pay561_lane, Cert.Proof.KI.k3_pay562_lane, Cert.Proof.KI.k3_pay563_lane, Cert.Proof.KI.k3_pay564_lane, Cert.Proof.KI.k3_pay565_lane, Cert.Proof.KI.k3_pay566_lane, Cert.Proof.KI.k3_pay567_lane, Cert.Proof.KI.k3_pay568_lane, Cert.Proof.KI.k3_pay569_lane, Cert.Proof.KI.k3_pay570_lane, Cert.Proof.KI.cast_16]
        refine Eq.trans (b := tree32 fun k : Fin 32 => View.readAt (Elt F) (Memref.whole cc3_scratch1).view
          (Rect.unit (s := S2x128x128) (k3_off23 kk (BitVec.ofNat 32 k.val)) S1x1x16.size (k3_off23_inb kk k)).toLoadRect fr (ix3 (0 : Fin 1) (0 : Fin 1) l')) rfl ?_
        refine (congrArg tree32 (funext fun k => ld_lane d L _ (1 : Fin 2) (32 * kk.val + k.val) 0 (by have := k3_lt kk; omega) (by omega) (k3_off23_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 0 + l'.val = k3_off24 kk 2 + 1 * l'.val
        rw [k3_off24_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (1 : Fin 2) (⟨kk.val, k3_lt kk⟩ : Fin 4) (⟨16 * 0 + l.val, by omega⟩ : Fin 128)) ∈ (Rect.unit (s := S2x4x128) (k3_off24 kk) S1x1x16.size (k3_off24_inb kk)).set
        rw [Rect.mem_set_unit, k3_off24_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (1 : Fin 2) (⟨kk.val, k3_lt kk⟩ : Fin 4) (⟨16 * 1 + l.val, by omega⟩ : Fin 128)) ∈ (Rect.unit (s := S2x4x128) (k3_off26 kk) S1x1x16.size (k3_off26_inb kk)).set
        rw [Rect.mem_set_unit, k3_off26_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (1 : Fin 2) (⟨kk.val, k3_lt kk⟩ : Fin 4) (⟨16 * 2 + l.val, by omega⟩ : Fin 128)) ∈ (Rect.unit (s := S2x4x128) (k3_off28 kk) S1x1x16.size (k3_off28_inb kk)).set
        rw [Rect.mem_set_unit, k3_off28_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (1 : Fin 2) (⟨kk.val, k3_lt kk⟩ : Fin 4) (⟨16 * 3 + l.val, by omega⟩ : Fin 128)) ∈ (Rect.unit (s := S2x4x128) (k3_off30 kk) S1x1x16.size (k3_off30_inb kk)).set
        rw [Rect.mem_set_unit, k3_off30_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (1 : Fin 2) (⟨kk.val, k3_lt kk⟩ : Fin 4) (⟨16 * 4 + l.val, by omega⟩ : Fin 128)) ∈ (Rect.unit (s := S2x4x128) (k3_off32 kk) S1x1x16.size (k3_off32_inb kk)).set
        rw [Rect.mem_set_unit, k3_off32_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (1 : Fin 2) (⟨kk.val, k3_lt kk⟩ : Fin 4) (⟨16 * 5 + l.val, by omega⟩ : Fin 128)) ∈ (Rect.unit (s := S2x4x128) (k3_off34 kk) S1x1x16.size (k3_off34_inb kk)).set
        rw [Rect.mem_set_unit, k3_off34_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (1 : Fin 2) (⟨kk.val, k3_lt kk⟩ : Fin 4) (⟨16 * 6 + l.val, by omega⟩ : Fin 128)) ∈ (Rect.unit (s := S2x4x128) (k3_off36 kk) S1x1x16.size (k3_off36_inb kk)).set
        rw [Rect.mem_set_unit, k3_off36_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (1 : Fin 2) (⟨kk.val, k3_lt kk⟩ : Fin 4) (⟨16 * 7 + l.val, by omega⟩ : Fin 128)) ∈ (Rect.unit (s := S2x4x128) (k3_off38 kk) S1x1x16.size (k3_off38_inb kk)).set
        rw [Rect.mem_set_unit, k3_off38_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc3_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k3_off38 kk) S1x1x16.size (k3_off38_inb kk)).set := hm
      rw [Rect.mem_set_unit, k3_off38_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 6
      intro hm
      have hm' : y ∈ (Rect.unit (s := S2x4x128) (k3_off36 kk) S1x1x16.size (k3_off36_inb kk)).set := hm
      rw [Rect.mem_set_unit, k3_off36_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 5
      intro hm
      have hm' : y ∈ (Rect.unit (s := S2x4x128) (k3_off34 kk) S1x1x16.size (k3_off34_inb kk)).set := hm
      rw [Rect.mem_set_unit, k3_off34_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 4
      intro hm
      have hm' : y ∈ (Rect.unit (s := S2x4x128) (k3_off32 kk) S1x1x16.size (k3_off32_inb kk)).set := hm
      rw [Rect.mem_set_unit, k3_off32_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 3
      intro hm
      have hm' : y ∈ (Rect.unit (s := S2x4x128) (k3_off30 kk) S1x1x16.size (k3_off30_inb kk)).set := hm
      rw [Rect.mem_set_unit, k3_off30_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 2
      intro hm
      have hm' : y ∈ (Rect.unit (s := S2x4x128) (k3_off28 kk) S1x1x16.size (k3_off28_inb kk)).set := hm
      rw [Rect.mem_set_unit, k3_off28_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 1
      intro hm
      have hm' : y ∈ (Rect.unit (s := S2x4x128) (k3_off26 kk) S1x1x16.size (k3_off26_inb kk)).set := hm
      rw [Rect.mem_set_unit, k3_off26_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 0
      intro hm
      have hm' : y ∈ (Rect.unit (s := S2x4x128) (k3_off24 kk) S1x1x16.size (k3_off24_inb kk)).set := hm
      rw [Rect.mem_set_unit, k3_off24_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩

end Inner

end Cert.Proof.Tile1

end
-- ==== Proof.BodyInnerVC1.lean ====
import proofs.«205366_g3083786518796_cont_9to1_852_38_alg».proof.Proof.BodyInnerC1
import proofs.«205366_g3083786518796_cont_9to1_852_38_alg».proof.Proof.BodyInvVC1
import Idealize.ShloMosaic.Lib.Writes
import Idealize.ShloMosaic.Lib.ValueIdx

noncomputable section

/-!
# The inner loops' trips against the invariant with the contents named

While a slot of the row scratch holds the 128 table rows its index chunk names, one trip of that slot's inner loop
adds one row to "the rows of the slot of the output scratch already summed hold the tree sums of their 32 table rows".
-/

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KI (tree32)

variable {F : FTy → Type}

variable [FloatOps F]
variable {U : Type} [URA U] [CountersIn U]

local notation "𝕄" => MT nD τ sig (HIx 3) (Elt F) ℕ U ℕ
local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

section Inner
variable (d : Dev nD) (L : grid3.Coords)
variable (Tx : S10000x128.Idx → Elt F .f32) (Ix : S32x10496.Idx → Elt F .i32)

/-- One trip of slot 0's inner loop against the invariant "the rows already summed hold their sums": the trip's row gets
    the tree of its 32 rows of the row scratch, which under `RowsOK` are the table rows the index chunk names. -/
theorem inner_region0 (n : ℕ) (h : Buf (Elt F) ((V d (cV L) (jV L)).loc cc3_scratch1)) (hr : RowsOK L Tx Ix (0 : Fin 2) n h)
    (k : Fin k3_t1_loop.trips) (v2 : BitVec 32) (kk : Fin k3_t2_loop.trips) (x : PUnit) :
    innerInv0 d L Tx Ix (Finset.univ \ (obK1).view.set) n h kk.val x
      ⊢ (wp frame (wpE (defs₀ (F := F)) 𝒱₀ (V d (cV L) (jV L)) none) Set.univ
          (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k kk x)
          (fun y => innerInv0 d L Tx Ix (Finset.univ \ (obK1).view.set) n h (kk.val + 1) y) : sProp 𝕄) := by
  cases x
  unfold innerInv0
  iintro ⟨%fob', %hs, Hrw, Hob⟩
  iapply (wp_wand_r frame _ Set.univ)
  isplitl [Hrw Hob]
  · iapply (inner_trip0 d L k kk h fob' v2)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k2_lt kk⟩ : Fin 4) := Fin.ext hrk
        subst er
        refine (p1 g l).trans ?_
        unfold scrSum rowSum
        refine congrArg Cert.Proof.KI.tree32 (funext fun q => ?_)
        show h (ix3 (0 : Fin 2) (⟨32 * kk.val + q.val, by have := k2_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k2_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

/-- One trip of slot 0's inner loop against the invariant "the rows already summed hold their sums": the trip's row gets
    the tree of its 32 rows of the row scratch, which under `RowsOK` are the table rows the index chunk names. -/
theorem inner_region0_first (n : ℕ) (h : Buf (Elt F) ((V d (cV L) (jV L)).loc cc3_scratch1)) (hr : RowsOK L Tx Ix (0 : Fin 2) n h)
    (k : Fin k3_t1_loop.trips) (v2 : BitVec 32) (kk : Fin k3_t2_loop.trips) (x : PUnit) :
    innerInv0 d L Tx Ix (Finset.univ) n h kk.val x
      ⊢ (wp frame (wpE (defs₀ (F := F)) 𝒱₀ (V d (cV L) (jV L)) none) Set.univ
          (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k kk x)
          (fun y => innerInv0 d L Tx Ix (Finset.univ) n h (kk.val + 1) y) : sProp 𝕄) := by
  cases x
  unfold innerInv0
  iintro ⟨%fob', %hs, Hrw, Hob⟩
  iapply (wp_wand_r frame _ Set.univ)
  isplitl [Hrw Hob]
  · iapply (inner_trip0_first d L k kk h fob' v2)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k2_lt kk⟩ : Fin 4) := Fin.ext hrk
        subst er
        refine (p1 g l).trans ?_
        unfold scrSum rowSum
        refine congrArg Cert.Proof.KI.tree32 (funext fun q => ?_)
        show h (ix3 (0 : Fin 2) (⟨32 * kk.val + q.val, by have := k2_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k2_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

/-- One trip of slot 1's inner loop against the invariant "the rows already summed hold their sums": the trip's row gets
    the tree of its 32 rows of the row scratch, which under `RowsOK` are the table rows the index chunk names. -/
theorem inner_region1 (n : ℕ) (h : Buf (Elt F) ((V d (cV L) (jV L)).loc cc3_scratch1)) (hr : RowsOK L Tx Ix (1 : Fin 2) n h)
    (k : Fin k3_t1_loop.trips) (v2 : BitVec 32) (arg11 : BitVec 32) (kk : Fin k3_t3_loop.trips) (x : PUnit) :
    innerInv1 d L Tx Ix n h kk.val x
      ⊢ (wp frame (wpE (defs₀ (F := F)) 𝒱₀ (V d (cV L) (jV L)) none) Set.univ
          (k3_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k arg11 kk x)
          (fun y => innerInv1 d L Tx Ix n h (kk.val + 1) y) : sProp 𝕄) := by
  cases x
  unfold innerInv1
  iintro ⟨%fob', %hs, Hrw, Hob⟩
  iapply (wp_wand_r frame _ Set.univ)
  isplitl [Hrw Hob]
  · iapply (inner_trip1 d L k kk h fob' v2 arg11)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k3_lt kk⟩ : Fin 4) := Fin.ext hrk
        subst er
        refine (p1 g l).trans ?_
        unfold scrSum rowSum
        refine congrArg Cert.Proof.KI.tree32 (funext fun q => ?_)
        show h (ix3 (1 : Fin 2) (⟨32 * kk.val + q.val, by have := k3_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k3_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

end Inner

end Cert.Proof.Tile1

end
-- ==== Proof.GatherReadC1.lean ====
/-
  What an indirect gather of 128 rows of the table leaves in its destination, read at an index.

  The gather's destination is a [128,128] slot; entry p of the 128-entry offset list names a row of the [10000,128]
  table; after the gather, row p of the destination is that row of the table: the element at (p, j) is the table's
  element at (offs[p], j).
-/
import proofs.«205366_g3083786518796_cont_9to1_852_38_alg».proof.Proof.Gen.KernelIdeal
import Idealize.ShloMosaic.Lib.SparseCore.Stream
import Idealize.ShloMosaic.Lib.ValueIdx
import proofs.«205366_g3083786518796_cont_9to1_852_38_alg».proof.Proof.ScTileParts1

noncomputable section

namespace Cert.Proof.GatherRead1

open Cert.KernelIdeal Cert.KernelIdeal.Gen
open Idealize.ShloMosaic Idealize.ShloMosaic.ValueIdx

variable {F : FTy → Type}

/-- The row the offset list names for destination row `p`: entry `p` of the list (a rank-one list's `p`-th word in
    row-major order is its `p`-th word). -/
theorem rows_apply (offs : S128.Idx → Elt F .i32) (hn : S128.numel = S128x128.size (gathers_S10000x128_S128x128).axis')
    (hin : ∀ x, (offs x).toNat < S10000x128.size (gathers_S10000x128_S128x128).axis) (p : Fin 128) :
    (SparseCore.rows (F := F) offs hn hin p).val = (offs (ix1 p)).toNat := by
  unfold SparseCore.rows
  show (offs (S128.rowMajor.symm (Fin.cast hn.symm p))).toNat = _
  congr 2
  apply S128.rowMajor.injective
  rw [Equiv.apply_symm_apply]
  apply Fin.ext
  rw [Shape.rowMajor_val_one]
  rfl

/-- THE GATHER'S PAYLOAD AT AN INDEX: element (p, j) of the destination is the table's element at (offs[p], j). -/
theorem gatherPayload_apply (Tx : S10000x128.Idx → Elt F .f32) (offs : S128.Idx → Elt F .i32)
    (hn : S128.numel = S128x128.size (gathers_S10000x128_S128x128).axis')
    (hin : ∀ x, (offs x).toNat < S10000x128.size (gathers_S10000x128_S128x128).axis) (p j : Fin 128) :
    SparseCore.gatherPayload (F := F) gathers_S10000x128_S128x128 Tx (SparseCore.rows (F := F) offs hn hin) (ix2 p j)
      = Tx (ix2 (⟨(offs (ix1 p)).toNat, hin _⟩ : Fin 10000) j) := by
  unfold SparseCore.gatherPayload
  congr 1
  funext b
  refine Fin.ext ?_
  match b with
  | ⟨0, _⟩ =>
    show ((gathers_S10000x128_S128x128).idx (SparseCore.rows (F := F) offs hn hin) (ix2 p j) (gathers_S10000x128_S128x128).axis).val = _
    rw [Shape.Gathers.idx_axis]
    exact rows_apply offs hn hin p
  | ⟨1, _⟩ =>
    exact Shape.Gathers.idx_of_ne gathers_S10000x128_S128x128 _ (ix2 p j) (⟨1, by decide⟩ : Fin S10000x128.rank) (by decide)

/-! ## The offsets the kernel gathers by: a window of the index scratch, which holds the worker's row of the index table -/

/-- The `n`-th window of 128 entries of the index scratch, read at entry `p`: entry `128·n + p` of the scratch. -/
theorem ixWin_read (n : ℕ) (h : ∀ a, (![128 * n] : Fin 1 → ℕ) a + S128.size a ≤ S10496.size a) (g : S10496.Idx → Elt F .i32)
    (p : Fin 128) (hp : 128 * n + p.val < 10496) :
    (Cert.Proof.Tile1.ixWinK n h).view.read (Elt F) g (ix1 p) = g (ix1 (⟨128 * n + p.val, hp⟩ : Fin 10496)) := by
  rw [View.read_apply]
  show g ((Rect.unit (s := S10496) ![128 * n] S128.size h).emb (ix1 p)) = _
  congr 1
  funext a
  refine Fin.ext ?_
  match a with
  | ⟨0, _⟩ =>
    rw [Rect.emb_apply]
    show 128 * n + 1 * p.val = 128 * n + p.val
    omega

/-- THE GATHER OF A WINDOW, AT AN INDEX: with the index scratch holding the worker's row of the index table `Ix` and
    the offsets its `n`-th window, element (p, j) of the destination is the table's element at the row that entry
    `128·n + p` of the worker's row names, lane j. -/
theorem gather_window_apply (L : grid3.Coords) (Tx : S10000x128.Idx → Elt F .f32) (Ix : S32x10496.Idx → BitVec 32)
    (n : ℕ) (h : ∀ a, (![128 * n] : Fin 1 → ℕ) a + S128.size a ≤ S10496.size a)
    (hn : S128.numel = S128x128.size (gathers_S10000x128_S128x128).axis')
    (hin : ∀ x, ((Cert.Proof.Tile1.ixWinK n h).view.read (Elt F) ((Cert.Proof.Tile1.iRowK L).view.read (Elt F) Ix) x).toNat
      < S10000x128.size (gathers_S10000x128_S128x128).axis)
    (p j : Fin 128) (hp : 128 * n + p.val < 10496) (hr : (Ix (ix2 (Cert.Proof.KI.wid (Cert.Proof.KI.cL1 L) (Cert.Proof.KI.jL1 L)) (⟨128 * n + p.val, hp⟩ : Fin 10496))).toNat < 10000) :
    SparseCore.gatherPayload (F := F) gathers_S10000x128_S128x128 Tx
        (SparseCore.rows (F := F) ((Cert.Proof.Tile1.ixWinK n h).view.read (Elt F) ((Cert.Proof.Tile1.iRowK L).view.read (Elt F) Ix)) hn hin) (ix2 p j)
      = Tx (ix2 (⟨(Ix (ix2 (Cert.Proof.KI.wid (Cert.Proof.KI.cL1 L) (Cert.Proof.KI.jL1 L)) (⟨128 * n + p.val, hp⟩ : Fin 10496))).toNat, hr⟩ : Fin 10000) j) := by
  rw [gatherPayload_apply]
  congr 2
  refine Fin.ext ?_
  show ((Cert.Proof.Tile1.ixWinK n h).view.read (Elt F) ((Cert.Proof.Tile1.iRowK L).view.read (Elt F) Ix) (ix1 p)).toNat = _
  rw [ixWin_read n h _ p hp, View.read_apply, Cert.Proof.KI.iRow_emb1 L _ hp]
  rfl

end Cert.Proof.GatherRead1

end
-- ==== Proof.GSumWindowC1.lean ====
/-
  The link between one gathered window and the neighbour sums.

  Worker w's output row 320·w + 4·n + r' (n < 80 the window's number, r' < 4) sums, over k < 32, the table rows named
  by entries 32·(4·n + r') + k = 128·n + (32·r' + k) of the worker's index row: entries 32·r' + k of the n-th window
  of 128.  So when a slot holds the n-th window's gather — its row p the table row that entry 128·n + p names — the
  output row is the tree sum of the slot's rows 32·r' … 32·r' + 31, lane by lane.
-/
import proofs.«205366_g3083786518796_cont_9to1_852_38_alg».proof.Proof.GSum
import proofs.«205366_g3083786518796_cont_9to1_852_38_alg».proof.Proof.GatherReadC1

noncomputable section

namespace Cert.Proof.KI

open Cert.KernelIdeal
open Idealize.ShloMosaic Idealize.ShloMosaic.ValueIdx

variable {F : FTy → Type} [FloatOps F]

/-- THE WINDOW'S SUMS: a slot holding the `n`-th window's gather gives rows 4·n … 4·n + 3 of the worker's neighbour sums
    as the tree sums of its four groups of 32 rows. -/
theorem gsumF_window1 (Tx : S10000x128.Idx → F .f32) (Ix : S32x10496.Idx → BitVec 32) (w : Fin 32) (n : ℕ) (hn : n < 80)
    (slot : S128x128.Idx → F .f32) (hin : ∀ k : Fin 10496, (Ix (ix2 w k)).toNat < 10000)
    (hslot : ∀ (p j : Fin 128), slot (ix2 p j)
      = Tx (ix2 (⟨(Ix (ix2 w (⟨128 * n + p.val, by omega⟩ : Fin 10496))).toNat, hin _⟩ : Fin 10000) j))
    (r' : Fin 4) (j : Fin 128) :
    gsumF Tx Ix (ix2 (⟨320 * w.val + 4 * n + r'.val, by omega⟩ : Fin 10240) j)
      = tree32 fun k : Fin 32 => slot (ix2 (⟨32 * r'.val + k.val, by omega⟩ : Fin 128) j) := by
  have e1 : (320 * w.val + 4 * n + r'.val) / 320 = w.val := by omega
  have e2 : (320 * w.val + 4 * n + r'.val) % 320 = 4 * n + r'.val := by omega
  show (tree32 fun k : Fin 32 =>
    Tx (ix2
      ⟨(Ix (ix2 ⟨(320 * w.val + 4 * n + r'.val) / 320, by omega⟩
          ⟨32 * ((320 * w.val + 4 * n + r'.val) % 320) + k.val, by omega⟩)).toNat % 10000, Nat.mod_lt _ (by decide)⟩ j)) = _
  congr 1
  funext k
  rw [hslot]
  have hI : Ix (ix2 (⟨(320 * w.val + 4 * n + r'.val) / 320, by omega⟩ : Fin 32)
        (⟨32 * ((320 * w.val + 4 * n + r'.val) % 320) + k.val, by omega⟩ : Fin 10496))
      = Ix (ix2 w (⟨128 * n + (32 * r'.val + k.val), by omega⟩ : Fin 10496)) := by
    congr 1
    have ha : (⟨(320 * w.val + 4 * n + r'.val) / 320, by omega⟩ : Fin 32) = w := Fin.ext e1
    have hb : (⟨32 * ((320 * w.val + 4 * n + r'.val) % 320) + k.val, by omega⟩ : Fin 10496) = ⟨128 * n + (32 * r'.val + k.val), by omega⟩ :=
      Fin.ext (by show 32 * ((320 * w.val + 4 * n + r'.val) % 320) + k.val = 128 * n + (32 * r'.val + k.val); omega)
    rw [ha, hb]
  congr 2
  refine Fin.ext ?_
  show (Ix (ix2 (⟨(320 * w.val + 4 * n + r'.val) / 320, by omega⟩ : Fin 32)
        (⟨32 * ((320 * w.val + 4 * n + r'.val) % 320) + k.val, by omega⟩ : Fin 10496))).toNat % 10000 = _
  rw [hI, Nat.mod_eq_of_lt (hin _)]

/-- The same at lane `16·g + l` of the eight 16-lane groups of a row (the form the vector unit's additions have). -/
theorem gsumF_window_lanes1 (Tx : S10000x128.Idx → F .f32) (Ix : S32x10496.Idx → BitVec 32) (w : Fin 32) (n : ℕ) (hn : n < 80)
    (slot : S128x128.Idx → F .f32) (hin : ∀ k : Fin 10496, (Ix (ix2 w k)).toNat < 10000)
    (hslot : ∀ (p j : Fin 128), slot (ix2 p j)
      = Tx (ix2 (⟨(Ix (ix2 w (⟨128 * n + p.val, by omega⟩ : Fin 10496))).toNat, hin _⟩ : Fin 10000) j))
    (r' : Fin 4) (g : Fin 8) (l : Fin 16) :
    gsumF Tx Ix (ix2 (⟨320 * w.val + 4 * n + r'.val, by omega⟩ : Fin 10240) (⟨16 * g.val + l.val, by omega⟩ : Fin 128))
      = tree32 fun k : Fin 32 => slot (ix2 (⟨32 * r'.val + k.val, by omega⟩ : Fin 128) (⟨16 * g.val + l.val, by omega⟩ : Fin 128)) :=
  gsumF_window1 Tx Ix w n hn slot hin hslot r' _

/-- THE CHUNK'S VALUES: the result chunk of trip `t`, slot `b` is rows 4·n … 4·n + 3 (n = 2·t + b) of the worker's
    rows; contents that hold, at each of these four rows, the tree sums of the slot's groups of 32 rows — the slot
    holding the n-th window's gather — are the neighbour sums on the chunk. -/
theorem chunk_val1 (L : grid3.Coords) (t : Fin k3_t1_loop.trips) (b : Fin 2) (Tx : S10000x128.Idx → F .f32) (Ix : S32x10496.Idx → BitVec 32)
    (f : S10240x128.Idx → F .f32) (slot : S128x128.Idx → F .f32)
    (hin : ∀ k : Fin 10496, (Ix (ix2 (wid (cL1 L) (jL1 L)) k)).toNat < 10000)
    (hslot : ∀ (p j : Fin 128), slot (ix2 p j)
      = Tx (ix2 (⟨(Ix (ix2 (wid (cL1 L) (jL1 L)) (⟨128 * (2 * t.val + b.val) + p.val, by
          have := lt_of_lt_of_eq t.isLt Cert.Proof.Tile1.trips_eq; omega⟩ : Fin 10496))).toNat, hin _⟩ : Fin 10000) j))
    (hf : ∀ (r' : Fin 4) (j : Fin 128),
      f (ix2 (⟨320 * (wid (cL1 L) (jL1 L)).val + 4 * (2 * t.val + b.val) + r'.val, by
          have := lt_of_lt_of_eq t.isLt Cert.Proof.Tile1.trips_eq; omega⟩ : Fin 10240) j)
        = tree32 fun k : Fin 32 => slot (ix2 (⟨32 * r'.val + k.val, by omega⟩ : Fin 128) j)) :
    ∀ x ∈ Cert.Proof.Tile1.oChunkSet L t b, f x = gsumF Tx Ix x := by
  intro x hx
  have ht : t.val < 40 := lt_of_lt_of_eq t.isLt Cert.Proof.Tile1.trips_eq
  have hb := b.isLt
  rw [Cert.Proof.Tile1.mem_oChunkSet] at hx
  obtain ⟨a, j, rfl⟩ : ∃ (a : Fin 10240) (j : Fin 128), x = ix2 a j := ⟨x 0, x 1, eq_ix2 x⟩
  have hw : (wid (cL1 L) (jL1 L)).val = 2 * (L 1).val + (L 0).val := rfl
  have hx' : 640 * (L 1).val + 320 * (L 0).val + 8 * t.val + 4 * b.val ≤ a.val
      ∧ a.val < 640 * (L 1).val + 320 * (L 0).val + 8 * t.val + 4 * b.val + 4 := hx
  have hr : a.val - (320 * (wid (cL1 L) (jL1 L)).val + 4 * (2 * t.val + b.val)) < 4 := by omega
  have e : (ix2 a j : S10240x128.Idx) = ix2 (⟨320 * (wid (cL1 L) (jL1 L)).val + 4 * (2 * t.val + b.val)
      + (⟨a.val - (320 * (wid (cL1 L) (jL1 L)).val + 4 * (2 * t.val + b.val)), hr⟩ : Fin 4).val, by omega⟩ : Fin 10240) j := by
    congr 1
    exact Fin.ext (by
      show a.val = 320 * (wid (cL1 L) (jL1 L)).val + 4 * (2 * t.val + b.val) + (a.val - (320 * (wid (cL1 L) (jL1 L)).val + 4 * (2 * t.val + b.val)))
      omega)
  rw [e, hf, gsumF_window1 Tx Ix (wid (cL1 L) (jL1 L)) (2 * t.val + b.val) (by omega) slot hin hslot]

end Cert.Proof.KI

end
-- ==== Proof.BodyStepsVC1.lean ====
/-
  The value steps of the gather-sum trips, as pure facts about the contents the transfers leave: a slot of the row scratch
  after its gather holds the table rows its index window names; a result chunk after its copy-out holds its rows of the
  neighbour-sum array when the result scratch's slot held the tree sums.
-/
import proofs.«205366_g3083786518796_cont_9to1_852_38_alg».proof.Proof.BodyLemmasC1
import proofs.«205366_g3083786518796_cont_9to1_852_38_alg».proof.Proof.BodyInvVC1
import proofs.«205366_g3083786518796_cont_9to1_852_38_alg».proof.Proof.GatherReadC1
import proofs.«205366_g3083786518796_cont_9to1_852_38_alg».proof.Proof.GSumWindowC1

noncomputable section

namespace Cert.Proof.Tile1

open Cert.KernelIdeal Cert.KernelIdeal.Gen
open Idealize.ShloMosaic
open Idealize.ShloMosaic.ValueIdx (ix1 ix2 ix3)

variable {F : FTy → Type}

/-! ## The views' placements -/

/-- Slot 0 of the row scratch: its element (r, j) is the scratch's element (0, r, j). -/
theorem rwK0_emb (r j : Fin 128) : (rwK0).view.emb (ix2 r j : S128x128.Idx) = (ix3 (0 : Fin 2) r j : S2x128x128.Idx) := by
  have hk : Shape.reshapeEquiv (s := S1x128x128) (s' := S128x128) (squeezes_S1x128x128_S128x128).numel_eq (ix2 r j : S128x128.Idx)
      = (ix3 (0 : Fin 1) r j : S1x128x128.Idx) :=
    Shape.reshapeEquiv_eq_of_rowMajor _ (by
      show ((⟨3, ![1, 128, 128]⟩ : Shape).rowMajor (ix3 (0 : Fin 1) r j) : ℕ) = ((⟨2, ![128, 128]⟩ : Shape).rowMajor (ix2 r j) : ℕ)
      rw [Shape.rowMajor_val_three, Shape.rowMajor_val_two]; simp)
  show (Rect.unit (s := S2x128x128) ![0, 0, 0] S1x128x128.size inb_S2x128x128_S1x128x128_0_0_0).emb
    (Shape.reshapeEquiv (s := S1x128x128) (s' := S128x128) (squeezes_S1x128x128_S128x128).numel_eq (ix2 r j : S128x128.Idx)) = _
  rw [hk]
  funext a
  refine Fin.ext ?_
  match a with
  | ⟨0, _⟩ => show 0 + 1 * 0 = 0; rfl
  | ⟨1, _⟩ => show 0 + 1 * r.val = r.val; omega
  | ⟨2, _⟩ => show 0 + 1 * j.val = j.val; omega

/-- Slot 1 of the row scratch. -/
theorem rwK1_emb (r j : Fin 128) : (rwK1).view.emb (ix2 r j : S128x128.Idx) = (ix3 (1 : Fin 2) r j : S2x128x128.Idx) := by
  have hk : Shape.reshapeEquiv (s := S1x128x128) (s' := S128x128) (squeezes_S1x128x128_S128x128).numel_eq (ix2 r j : S128x128.Idx)
      = (ix3 (0 : Fin 1) r j : S1x128x128.Idx) :=
    Shape.reshapeEquiv_eq_of_rowMajor _ (by
      show ((⟨3, ![1, 128, 128]⟩ : Shape).rowMajor (ix3 (0 : Fin 1) r j) : ℕ) = ((⟨2, ![128, 128]⟩ : Shape).rowMajor (ix2 r j) : ℕ)
      rw [Shape.rowMajor_val_three, Shape.rowMajor_val_two]; simp)
  show (Rect.unit (s := S2x128x128) ![1, 0, 0] S1x128x128.size inb_S2x128x128_S1x128x128_1_0_0).emb
    (Shape.reshapeEquiv (s := S1x128x128) (s' := S128x128) (squeezes_S1x128x128_S128x128).numel_eq (ix2 r j : S128x128.Idx)) = _
  rw [hk]
  funext a
  refine Fin.ext ?_
  match a with
  | ⟨0, _⟩ => show 1 + 1 * 0 = 1; rfl
  | ⟨1, _⟩ => show 0 + 1 * r.val = r.val; omega
  | ⟨2, _⟩ => show 0 + 1 * j.val = j.val; omega

/-- The shared table addressed whole reads the table. -/
theorem shAll_read (Tx : S10000x128.Idx → Elt F .f32) (x : S10000x128.Idx) : (shAllK).view.read (Elt F) Tx x = Tx x := by
  rw [View.read_apply]
  show Tx ((Rect.unit (s := S10000x128) ![0, 0] S10000x128.size inb_S10000x128_S10000x128_0_0).emb x) = Tx x
  congr 1
  funext a
  refine Fin.ext ?_
  match a with
  | ⟨0, _⟩ => show 0 + 1 * (x 0).val = (x 0).val; omega
  | ⟨1, _⟩ => show 0 + 1 * (x 1).val = (x 1).val; omega

/-! ## A slot after its gather -/

section Steps

variable (L : grid3.Coords) (Tx : S10000x128.Idx → Elt F .f32) (Ix : S32x10496.Idx → Elt F .i32)

/-- Writing a whole slot of the row scratch, read back at the slot's element. -/
theorem write_rwK0 (g : S2x128x128.Idx → Elt F .f32) (P : S128x128.Idx → Elt F .f32) (r j : Fin 128) :
    View.write (Elt F) (rwK0).view g P Finset.univ (ix3 (0 : Fin 2) r j) = P (ix2 r j) := by
  rw [← rwK0_emb r j, View.write_emb, if_pos (Finset.mem_univ _)]; rfl
theorem write_rwK1 (g : S2x128x128.Idx → Elt F .f32) (P : S128x128.Idx → Elt F .f32) (r j : Fin 128) :
    View.write (Elt F) (rwK1).view g P Finset.univ (ix3 (1 : Fin 2) r j) = P (ix2 r j) := by
  rw [← rwK1_emb r j, View.write_emb, if_pos (Finset.mem_univ _)]; rfl

/-- The offsets of the `n`-th window name the rows `idxAt` names. -/
theorem window_row (n : ℕ) (hn : n ≤ 81) (inb : ∀ a, (![128 * n] : Fin 1 → ℕ) a + S128.size a ≤ S10496.size a)
    (hin' : ∀ x, (((ixWinK n inb).view.read (Elt F) ((iRowK L).view.read (Elt F) Ix)) x).toNat
      < S10000x128.size (gathers_S10000x128_S128x128).axis) (r : Fin 128) :
    (((ixWinK n inb).view.read (Elt F) ((iRowK L).view.read (Elt F) Ix)) (ix1 r)).toNat = (idxAt L Ix (128 * n + r.val)).val := by
  have hp : 128 * n + r.val < 10496 := by have := r.isLt; omega
  have h1 := hin' (ix1 r)
  rw [Cert.Proof.GatherRead1.ixWin_read n inb _ r hp] at h1 ⊢
  unfold idxAt
  show _ = ((iRowK L).view.read (Elt F) Ix (ix1 ⟨(128 * n + r.val) % 10496, Nat.mod_lt _ (by decide)⟩)).toNat % 10000
  have e : (⟨(128 * n + r.val) % 10496, Nat.mod_lt _ (by decide)⟩ : Fin 10496) = ⟨128 * n + r.val, hp⟩ := Fin.ext (Nat.mod_eq_of_lt hp)
  have h1' : ((iRowK L).view.read (Elt F) Ix (ix1 (⟨128 * n + r.val, hp⟩ : Fin 10496))).toNat < 10000 := h1
  rw [e, Nat.mod_eq_of_lt h1']

/-- SLOT 0 AFTER ITS GATHER holds the 128 table rows its index window names. -/
theorem rows_ok0 (n : ℕ) (hn : n ≤ 81) (off : Fin 1 → ℕ) (hoff : off = ![128 * n]) (inb : ∀ a, off a + S128.size a ≤ S10496.size a)
    (g : S2x128x128.Idx → Elt F .f32)
    (hnum : S128.numel = S128x128.size (gathers_S10000x128_S128x128).axis')
    (hin' : ∀ x, ((((Memref.whole cc3_scratch0 : Memref sig .scVector .vmem S10496 .i32).slice (Rect.unit (s := S10496) off S128.size inb) (fun _ => rfl)).view.read (Elt F)
        ((iRowK L).view.read (Elt F) Ix)) x).toNat < S10000x128.size (gathers_S10000x128_S128x128).axis) :
    RowsOK L Tx Ix 0 n (View.write (Elt F) (rwK0).view g
      (SparseCore.gatherPayload gathers_S10000x128_S128x128 ((shAllK).view.read (Elt F) Tx)
        (SparseCore.rows (((Memref.whole cc3_scratch0 : Memref sig .scVector .vmem S10496 .i32).slice (Rect.unit (s := S10496) off S128.size inb) (fun _ => rfl)).view.read (Elt F)
          ((iRowK L).view.read (Elt F) Ix)) hnum hin')) Finset.univ) := by
  subst hoff
  intro r j
  rw [write_rwK0, Cert.Proof.GatherRead1.gatherPayload_apply, shAll_read]
  congr 2
  exact Fin.ext (window_row L Ix n hn inb hin' r)

/-- SLOT 1 AFTER ITS GATHER. -/
theorem rows_ok1 (n : ℕ) (hn : n ≤ 81) (off : Fin 1 → ℕ) (hoff : off = ![128 * n]) (inb : ∀ a, off a + S128.size a ≤ S10496.size a)
    (g : S2x128x128.Idx → Elt F .f32)
    (hnum : S128.numel = S128x128.size (gathers_S10000x128_S128x128).axis')
    (hin' : ∀ x, ((((Memref.whole cc3_scratch0 : Memref sig .scVector .vmem S10496 .i32).slice (Rect.unit (s := S10496) off S128.size inb) (fun _ => rfl)).view.read (Elt F)
        ((iRowK L).view.read (Elt F) Ix)) x).toNat < S10000x128.size (gathers_S10000x128_S128x128).axis) :
    RowsOK L Tx Ix 1 n (View.write (Elt F) (rwK1).view g
      (SparseCore.gatherPayload gathers_S10000x128_S128x128 ((shAllK).view.read (Elt F) Tx)
        (SparseCore.rows (((Memref.whole cc3_scratch0 : Memref sig .scVector .vmem S10496 .i32).slice (Rect.unit (s := S10496) off S128.size inb) (fun _ => rfl)).view.read (Elt F)
          ((iRowK L).view.read (Elt F) Ix)) hnum hin')) Finset.univ) := by
  subst hoff
  intro r j
  rw [write_rwK1, Cert.Proof.GatherRead1.gatherPayload_apply, shAll_read]
  congr 2
  exact Fin.ext (window_row L Ix n hn inb hin' r)

end Steps

/-! ## A result chunk after its copy-out -/

/-- Slot 0 / 1 of the result scratch: element (r', j) is the scratch's element (b, r', j). -/
theorem obK0_emb (r' : Fin 4) (j : Fin 128) : (obK0).view.emb (ix2 r' j : S4x128.Idx) = (ix3 (0 : Fin 2) r' j : S2x4x128.Idx) := by
  have hk : Shape.reshapeEquiv (s := S1x4x128) (s' := S4x128) (squeezes_S1x4x128_S4x128).numel_eq (ix2 r' j : S4x128.Idx)
      = (ix3 (0 : Fin 1) r' j : S1x4x128.Idx) :=
    Shape.reshapeEquiv_eq_of_rowMajor _ (by
      show ((⟨3, ![1, 4, 128]⟩ : Shape).rowMajor (ix3 (0 : Fin 1) r' j) : ℕ) = ((⟨2, ![4, 128]⟩ : Shape).rowMajor (ix2 r' j) : ℕ)
      rw [Shape.rowMajor_val_three, Shape.rowMajor_val_two]; simp)
  show (Rect.unit (s := S2x4x128) ![0, 0, 0] S1x4x128.size inb_S2x4x128_S1x4x128_0_0_0).emb
    (Shape.reshapeEquiv (s := S1x4x128) (s' := S4x128) (squeezes_S1x4x128_S4x128).numel_eq (ix2 r' j : S4x128.Idx)) = _
  rw [hk]
  funext a
  refine Fin.ext ?_
  match a with
  | ⟨0, _⟩ => show 0 + 1 * 0 = 0; rfl
  | ⟨1, _⟩ => show 0 + 1 * r'.val = r'.val; omega
  | ⟨2, _⟩ => show 0 + 1 * j.val = j.val; omega
theorem obK1_emb (r' : Fin 4) (j : Fin 128) : (obK1).view.emb (ix2 r' j : S4x128.Idx) = (ix3 (1 : Fin 2) r' j : S2x4x128.Idx) := by
  have hk : Shape.reshapeEquiv (s := S1x4x128) (s' := S4x128) (squeezes_S1x4x128_S4x128).numel_eq (ix2 r' j : S4x128.Idx)
      = (ix3 (0 : Fin 1) r' j : S1x4x128.Idx) :=
    Shape.reshapeEquiv_eq_of_rowMajor _ (by
      show ((⟨3, ![1, 4, 128]⟩ : Shape).rowMajor (ix3 (0 : Fin 1) r' j) : ℕ) = ((⟨2, ![4, 128]⟩ : Shape).rowMajor (ix2 r' j) : ℕ)
      rw [Shape.rowMajor_val_three, Shape.rowMajor_val_two]; simp)
  show (Rect.unit (s := S2x4x128) ![1, 0, 0] S1x4x128.size inb_S2x4x128_S1x4x128_1_0_0).emb
    (Shape.reshapeEquiv (s := S1x4x128) (s' := S4x128) (squeezes_S1x4x128_S4x128).numel_eq (ix2 r' j : S4x128.Idx)) = _
  rw [hk]
  funext a
  refine Fin.ext ?_
  match a with
  | ⟨0, _⟩ => show 1 + 1 * 0 = 1; rfl
  | ⟨1, _⟩ => show 0 + 1 * r'.val = r'.val; omega
  | ⟨2, _⟩ => show 0 + 1 * j.val = j.val; omega

section Chunk

variable (L : grid3.Coords) (Tx : S10000x128.Idx → Elt F .f32) (Ix : S32x10496.Idx → Elt F .i32)

/-- The result chunk of trip `t`, slot `b`: its element (r', j) is the output's element at row 640·(L 1) + 320·(L 0) + 8·t + 4·b + r'. -/
theorem oChunk_emb (t : Fin k3_t1_loop.trips) (b : Fin 2) (r' : Fin 4) (j : Fin 128)
    (h : 640 * (L 1).val + 320 * (L 0).val + 8 * t.val + 4 * b.val + r'.val < 10240) :
    (oChunkK L t b).view.emb (ix2 r' j : S4x128.Idx)
      = (ix2 (⟨640 * (L 1).val + 320 * (L 0).val + 8 * t.val + 4 * b.val + r'.val, h⟩ : Fin 10240) j : S10240x128.Idx) := by
  show (Rect.unit (s := S10240x128) (k3_off20 L t (BitVec.ofNat 32 b.val)) S4x128.size (k3_off20_inb L t b)).emb (ix2 r' j : S4x128.Idx) = _
  have h1 := k3_off20_eq L t b
  funext a
  refine Fin.ext ?_
  rw [Rect.emb_apply]
  match a with
  | ⟨0, _⟩ =>
    show (k3_off20 L t (BitVec.ofNat 32 b.val)) 0 + 1 * r'.val = 640 * (L 1).val + 320 * (L 0).val + 8 * t.val + 4 * b.val + r'.val
    rw [h1]; simp
  | ⟨1, _⟩ =>
    show (k3_off20 L t (BitVec.ofNat 32 b.val)) 1 + 1 * j.val = j.val
    rw [h1]; simp

variable [FloatOps F]

/-- A row's sum as the kernel's invariant names it is that row of the neighbour-sum array. -/
theorem rowSum_eq (m : ℕ) (hm : m < 320) (j : Fin 128) :
    rowSum L Tx Ix m j
      = Cert.Proof.KI.gsumF (F := F) Tx Ix (ix2 (⟨320 * (2 * (L 1).val + (L 0).val) + m, by
          have h1 : (L 1).val < 16 := (L 1).isLt
          have h0 : (L 0).val < 2 := (L 0).isLt
          omega⟩ : Fin 10240) j) := by
  have h1 : (L 1).val < 16 := (L 1).isLt
  have h0 : (L 0).val < 2 := (L 0).isLt
  have e1 : (320 * (2 * (L 1).val + (L 0).val) + m) / 320 = 2 * (L 1).val + (L 0).val := by omega
  have e2 : (320 * (2 * (L 1).val + (L 0).val) + m) % 320 = m := by omega
  unfold rowSum
  show _ = (Cert.Proof.KI.tree32 fun k : Fin 32 =>
    Tx (ix2
      ⟨(Ix (ix2 ⟨(320 * (2 * (L 1).val + (L 0).val) + m) / 320, by omega⟩
          ⟨32 * ((320 * (2 * (L 1).val + (L 0).val) + m) % 320) + k.val, by omega⟩)).toNat % 10000, Nat.mod_lt _ (by decide)⟩ j))
  congr 1
  funext k
  congr 2
  refine Fin.ext ?_
  unfold idxAt
  show ((iRowK L).view.read (Elt F) Ix (ix1 ⟨(32 * m + k.val) % 10496, Nat.mod_lt _ (by decide)⟩)).toNat % 10000 = _
  have hp : 32 * m + k.val < 10496 := by have := k.isLt; omega
  have e : (⟨(32 * m + k.val) % 10496, Nat.mod_lt _ (by decide)⟩ : Fin 10496) = ⟨32 * m + k.val, hp⟩ := Fin.ext (Nat.mod_eq_of_lt hp)
  rw [e, View.read_apply, Cert.Proof.KI.iRow_emb1 L _ hp]
  show (Ix (ix2 (Cert.Proof.KI.wid (Cert.Proof.KI.cL1 L) (Cert.Proof.KI.jL1 L)) (⟨32 * m + k.val, hp⟩ : Fin 10496))).toNat % 10000 = _
  congr 3
  congr 1
  · exact Fin.ext e1.symm
  · exact Fin.ext (by show 32 * m + k.val = 32 * ((320 * (2 * (L 1).val + (L 0).val) + m) % 320) + k.val; rw [e2])

/-- THE CHUNK OF SLOT 0 AFTER ITS COPY-OUT holds its rows of the neighbour-sum array, when the slot of the result scratch held
    the four tree sums. -/
theorem chunk_ok0 (k : Fin k3_t1_loop.trips) (fc : S10240x128.Idx → Elt F .f32) (fob : S2x4x128.Idx → Elt F .f32)
    (hs : SumsOK L Tx Ix 0 (2 * k.val) 4 fob) :
    ChunkOK L Tx Ix k 0 ((oChunkK L k 0).view.writes (Elt F) fc [⟨Rect.whole S4x128, ReadAs.same.apply ((obK0).view.read (Elt F) fob)⟩]) := by
  intro x hx
  have hk : k.val < 40 := lt_of_lt_of_eq k.isLt trips_eq
  have h1 : (L 1).val < 16 := (L 1).isLt
  have h0 : (L 0).val < 2 := (L 0).isLt
  obtain ⟨y, -, rfl⟩ := Finset.mem_map.mp hx
  obtain ⟨r', j, rfl⟩ : ∃ (r' : Fin 4) (j : Fin 128), y = (ix2 r' j : S4x128.Idx) := ⟨y 0, y 1, ValueIdx.eq_ix2 y⟩
  have h := View.read_writes_cons_emb (Val := Elt F) (oChunkK L k 0).view fc (Rect.whole S4x128)
    (ReadAs.same.apply ((obK0).view.read (Elt F) fob)) [] (ix2 r' j : S4x128.Idx)
  rw [Rect.emb_whole_apply, View.read_apply, ReadAs.apply_same, View.read_apply] at h
  simp only [cast_eq] at h
  have hrow : 640 * (L 1).val + 320 * (L 0).val + 8 * k.val + 4 * (0 : Fin 2).val + r'.val < 10240 := by
    have := r'.isLt; show 640 * (L 1).val + 320 * (L 0).val + 8 * k.val + 4 * 0 + r'.val < 10240; omega
  rw [h, obK0_emb r' j, hs r' j r'.isLt, rowSum_eq L Tx Ix (4 * (2 * k.val) + r'.val) (by have := r'.isLt; omega) j,
    oChunk_emb L k 0 r' j hrow]
  congr 2
  exact Fin.ext (by
    show 320 * (2 * (L 1).val + (L 0).val) + (4 * (2 * k.val) + r'.val) = 640 * (L 1).val + 320 * (L 0).val + 8 * k.val + 4 * 0 + r'.val
    omega)

/-- THE CHUNK OF SLOT 1 AFTER ITS COPY-OUT holds its rows of the neighbour-sum array, when the slot of the result scratch held
    the four tree sums. -/
theorem chunk_ok1 (k : Fin k3_t1_loop.trips) (fc : S10240x128.Idx → Elt F .f32) (fob : S2x4x128.Idx → Elt F .f32)
    (hs : SumsOK L Tx Ix 1 (2 * k.val + 1) 4 fob) :
    ChunkOK L Tx Ix k 1 ((oChunkK L k 1).view.writes (Elt F) fc [⟨Rect.whole S4x128, ReadAs.same.apply ((obK1).view.read (Elt F) fob)⟩]) := by
  intro x hx
  have hk : k.val < 40 := lt_of_lt_of_eq k.isLt trips_eq
  have h1 : (L 1).val < 16 := (L 1).isLt
  have h0 : (L 0).val < 2 := (L 0).isLt
  obtain ⟨y, -, rfl⟩ := Finset.mem_map.mp hx
  obtain ⟨r', j, rfl⟩ : ∃ (r' : Fin 4) (j : Fin 128), y = (ix2 r' j : S4x128.Idx) := ⟨y 0, y 1, ValueIdx.eq_ix2 y⟩
  have h := View.read_writes_cons_emb (Val := Elt F) (oChunkK L k 1).view fc (Rect.whole S4x128)
    (ReadAs.same.apply ((obK1).view.read (Elt F) fob)) [] (ix2 r' j : S4x128.Idx)
  rw [Rect.emb_whole_apply, View.read_apply, ReadAs.apply_same, View.read_apply] at h
  simp only [cast_eq] at h
  have hrow : 640 * (L 1).val + 320 * (L 0).val + 8 * k.val + 4 * (1 : Fin 2).val + r'.val < 10240 := by
    have := r'.isLt; show 640 * (L 1).val + 320 * (L 0).val + 8 * k.val + 4 * 1 + r'.val < 10240; omega
  rw [h, obK1_emb r' j, hs r' j r'.isLt, rowSum_eq L Tx Ix (4 * (2 * k.val + 1) + r'.val) (by have := r'.isLt; omega) j,
    oChunk_emb L k 1 r' j hrow]
  congr 2
  exact Fin.ext (by
    show 320 * (2 * (L 1).val + (L 0).val) + (4 * (2 * k.val + 1) + r'.val) = 640 * (L 1).val + 320 * (L 0).val + 8 * k.val + 4 * 1 + r'.val
    omega)

end Chunk

end Cert.Proof.Tile1

end
-- ==== Proof.BodyTripVC1.lean ====
/-
  One trip of the gather-sum kernel's forty, with what the buffers hold: from the valued invariant to itself one trip on.
  The slot's gather leaves the table rows its index chunk names; the inner loop leaves the four tree sums; the copy-out's
  chunk holds its rows of the neighbour-sum array.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC1
import proofs.«205366_g3083786518796_cont_9to1_852_38_alg».proof.Proof.BodyLemmasC1
import proofs.«205366_g3083786518796_cont_9to1_852_38_alg».proof.Proof.BodyInvC1
import proofs.«205366_g3083786518796_cont_9to1_852_38_alg».proof.Proof.BodyJoinC1
import proofs.«205366_g3083786518796_cont_9to1_852_38_alg».proof.Proof.GSum
import proofs.«205366_g3083786518796_cont_9to1_852_38_alg».proof.Proof.BodyInvVC1
import proofs.«205366_g3083786518796_cont_9to1_852_38_alg».proof.Proof.BodyTripC1
import proofs.«205366_g3083786518796_cont_9to1_852_38_alg».proof.Proof.BodyStepVC1
import proofs.«205366_g3083786518796_cont_9to1_852_38_alg».proof.Proof.BodyInnerVC1
import proofs.«205366_g3083786518796_cont_9to1_852_38_alg».proof.Proof.BodyStepsVC1
import Idealize.ShloMosaic.Lib.ValueIdx

noncomputable section

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

section Body
variable (d : Dev nD) (L : grid3.Coords)

open Idealize.ShloMosaic.ValueIdx (ix1 ix2 ix3)

set_option maxHeartbeats 8000000 in
/-- The first trip: no copy-out is pending. -/
theorem trip0V (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (HR0f : ∀ (n : ℕ) (h : Buf (Elt F) ((V d (cV L) (jV L)).loc cc3_scratch1)) (_ : RowsOK L Tx Ix 0 n h) (k : Fin k3_t1_loop.trips) (v2 : BitVec 32) (k2 : Fin k3_t2_loop.trips) (x : PUnit),
      innerInv0 (U := U) d L Tx Ix Finset.univ n h k2.val x ⊢ wp frame (wpE (defs₀ (F := F)) 𝒱₀ (V d (cV L) (jV L)) none) Set.univ
        (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k k2 x) (fun y => innerInv0 (U := U) d L Tx Ix Finset.univ n h (k2.val + 1) y))
    (HR0 : ∀ (n : ℕ) (h : Buf (Elt F) ((V d (cV L) (jV L)).loc cc3_scratch1)) (_ : RowsOK L Tx Ix 0 n h) (k : Fin k3_t1_loop.trips) (v2 : BitVec 32) (k2 : Fin k3_t2_loop.trips) (x : PUnit),
      innerInv0 (U := U) d L Tx Ix (Finset.univ \ (obK1).view.set) n h k2.val x ⊢ wp frame (wpE (defs₀ (F := F)) 𝒱₀ (V d (cV L) (jV L)) none) Set.univ
        (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k k2 x) (fun y => innerInv0 (U := U) d L Tx Ix (Finset.univ \ (obK1).view.set) n h (k2.val + 1) y))
    (HR1 : ∀ (n : ℕ) (h : Buf (Elt F) ((V d (cV L) (jV L)).loc cc3_scratch1)) (_ : RowsOK L Tx Ix 1 n h) (k : Fin k3_t1_loop.trips) (v2 arg11 : BitVec 32) (k3 : Fin k3_t3_loop.trips) (x : PUnit),
      innerInv1 (U := U) d L Tx Ix n h k3.val x ⊢ wp frame (wpE (defs₀ (F := F)) 𝒱₀ (V d (cV L) (jV L)) none) Set.univ
        (k3_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k arg11 k3 x) (fun y => innerInv1 (U := U) d L Tx Ix n h (k3.val + 1) y))
    (HG0 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 0 n (View.write (Elt F) (rwK0).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HG1 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 1 n (View.write (Elt F) (rwK1).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HC0 : ∀ (k : Fin k3_t1_loop.trips) (fc : S10240x128.Idx → Elt F .f32) (fob : S2x4x128.Idx → Elt F .f32), SumsOK L Tx Ix 0 (2 * k.val) 4 fob →
      ChunkOK L Tx Ix k 0 ((oChunkK L k 0).view.writes (Elt F) fc [⟨Rect.whole S4x128, ReadAs.same.apply ((obK0).view.read (Elt F) fob)⟩]))
    (HC1 : ∀ (k : Fin k3_t1_loop.trips) (fc : S10240x128.Idx → Elt F .f32) (fob : S2x4x128.Idx → Elt F .f32), SumsOK L Tx Ix 1 (2 * k.val + 1) 4 fob →
      ChunkOK L Tx Ix k 1 ((oChunkK L k 1).view.writes (Elt F) fc [⟨Rect.whole S4x128, ReadAs.same.apply ((obK1).view.read (Elt F) fob)⟩]))
    (O : CellTallies nD τ sig (HIx 3)) (W : Waits sig (HIx 3)) (v2 : BitVec 32)
    (k : Fin k3_t1_loop.trips) (hk : k.val = 0) (x : PUnit) :
    tripInvV (U := U) d L Tx Ix O W k.val x
      ⊢ wp frame (wpE (defs₀ (F := F)) 𝒱₀ (V d (cV L) (jV L)) none) Set.univ
          (k3_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k x)
          fun y => tripInvV (U := U) d L Tx Ix O W (k.val + 1) y := by
  have hc1 := cond1_zero hk
  have hc2 := cond2_zero hk
  have hrow : (k.val + 1 ≠ k.val) := Nat.succ_ne_self _
  unfold tripInvV
  rw [if_pos hk, if_pos hk]
  unfold gFl0 gFl1
  iintro ⟨#Hmw, ⟨%fr0, %fr1, %hrows, ⟨FG0, Hix0⟩, ⟨FG1, Hix1⟩⟩, ⟨%frr, Hrwr⟩, Hsh0, Hsh1, ⟨%fob, Hob, Hso0, Hso1⟩, Hrows, ⟨%W', %hW', HO⟩⟩
  ihave Hr := (Entails.of_eq (SparseCore.bigSep_erase' (Φ := fun t' : Fin k3_t1_loop.trips => rowStV (U := U) (F := F) d L Tx Ix k.val t') (Finset.mem_univ k))) $$ Hrows
  icases Hr with ⟨Hrow, Hrest⟩
  ihave Hrow' := (Entails.of_eq (rowStV_todo (F := F) (U := U) d L Tx Ix hrow (Nat.lt_irrefl _))) $$ Hrow
  icases Hrow' with ⟨⟨%fc0, Hoc0⟩, ⟨%fc1, Hoc1⟩⟩
  unfold k3_t1_body
  -- slot 0: its gather waited for
  sl_exec
  -- slot 0 of the row scratch, back from its gather, joined to what is held of the scratch
  ihave Hj := (pts_joinV (F := F) (U := U) (sdiff_join_disj rw_slots_disjoint) fr0 frr) $$ [FG0_dst Hrwr]
  · isplitl [FG0_dst]; · iexact FG0_dst
    iexact Hrwr
  icases Hj with ⟨%g1, %hg1, Hrw⟩
  have hr1 : RowsOK L Tx Ix 0 (2 * k.val) g1 := RowsOK_of_eq0 (F := F) L Tx Ix hrows.1 hg1
  rw [sdiff_join_left rw_slots_disjoint]
  -- the four sums of slot 0
  sl_for (innerInv0 (U := U) d L Tx Ix Finset.univ (2 * k.val) g1) $$ [Hrw Hob]
  case region =>
    intro k2 x2
    exact HR0f (2 * k.val) g1 hr1 k v2 k2 x2
  · unfold innerInv0
    iexists fob; isplitr; · ipureintro; exact SumsOK_zero (F := F) L Tx Ix 0 _ _
    isplitl [Hrw]; · iexact Hrw
    iexact Hob
  iintro %_ HI
  unfold innerInv0
  icases HI with ⟨%fobA, %hsA, Hrw, Hob⟩
  have hsA4 : SumsOK L Tx Ix 0 (2 * k.val) 4 fobA := hsA
  -- slot 0 copied out, its next gather started; slot 1's gather waited for
  sl_exec
  -- slot 1 of the row scratch joined
  ihave Hj := (pts_joinV (F := F) (U := U) (sdiff_join_disj rw_slots_disjoint.symm) fr1 _) $$ [FG1_dst Hrw]
  · isplitl [FG1_dst]; · iexact FG1_dst
    iexact Hrw
  icases Hj with ⟨%g2, %hg2, Hrw⟩
  have hr2 : RowsOK L Tx Ix 1 (2 * k.val + 1) g2 := RowsOK_of_eq1 (F := F) L Tx Ix hrows.2 hg2
  rw [sdiff_join_left rw_slots_disjoint.symm]
  -- the four sums of slot 1
  sl_for (innerInv1 (U := U) d L Tx Ix (2 * k.val + 1) g2) $$ [Hrw Hob]
  case region =>
    intro k3 x3
    exact HR1 (2 * k.val + 1) g2 hr2 k v2 _ k3 x3
  · unfold innerInv1
    iexists fobA; isplitr; · ipureintro; exact SumsOK_zero (F := F) L Tx Ix 1 _ _
    isplitl [Hrw]; · iexact Hrw
    iexact Hob
  iintro %_ HI
  unfold innerInv1
  icases HI with ⟨%fobB, %hsB, Hrw, Hob⟩
  have hsB4 : SumsOK L Tx Ix 1 (2 * k.val + 1) 4 fobB := hsB
  -- slot 1 copied out, its next gather started
  sl_exec
  sl_step
  -- the invariant, one trip on
  have h40 := lt_of_lt_of_eq k.isLt k3_trips_eq
  have hoff0 : k3_off21 k 0#32 = ![128 * (2 * (k.val + 1))] := by
    have h := k3_off21_eq k (0 : Fin 2)
    rw [show (BitVec.ofNat 32 ((0 : Fin 2) : ℕ)) = 0#32 from rfl] at h
    rw [h]; congr 1; simp; omega
  have hoff1 : k3_off21 k 1#32 = ![128 * (2 * (k.val + 1) + 1)] := by
    have h := k3_off21_eq k (1 : Fin 2)
    rw [show (BitVec.ofNat 32 ((1 : Fin 2) : ℕ)) = 1#32 from rfl] at h
    rw [h]; congr 1; simp; omega
  rw [if_neg (Nat.succ_ne_zero k.val), if_neg (Nat.succ_ne_zero k.val), Nat.add_sub_cancel, tFin_val]
  unfold oFl0 oFl1
  isplitr; · iexact Hmw
  isplitl [FG0 Hix0 FG1 Hix1]
  · iexists _; iexists _
    isplitr
    swap
    · isplitl [FG0 Hix0]
      · isplitl [FG0]; · iexact FG0
        iexact Hix0
      · isplitl [FG1]; · iexact FG1
        iexact Hix1
    ipureintro
    exact ⟨HG0 (2 * (k.val + 1)) (by omega) _ hoff0 _ _ _ _, HG1 (2 * (k.val + 1) + 1) (by omega) _ hoff1 _ _ _ _⟩
  isplitl [Hrw]; · iexists _; iexact Hrw
  isplitl [Hsh0]; · iexact Hsh0
  isplitl [Hsh1]; · iexact Hsh1
  isplitl [Hso0 Hso1 Hob]
  · iexists _; iexists _; iexists _; iexists _; iexists _
    isplitr
    swap
    · isplitl [Hso0]; · iexact Hso0
      isplitl [Hso1]; · iexact Hso1
      iexact Hob
    ipureintro
    exact ⟨HC0 k _ _ hsA4, HC1 k _ _ hsB4⟩
  isplitl [Hrest]; · iapply (rows_step0V (F := F) (U := U) d L Tx Ix k hk); iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
/-- A later trip: the previous trip's two copy-outs are pending. -/
theorem tripSV (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (HR0f : ∀ (n : ℕ) (h : Buf (Elt F) ((V d (cV L) (jV L)).loc cc3_scratch1)) (_ : RowsOK L Tx Ix 0 n h) (k : Fin k3_t1_loop.trips) (v2 : BitVec 32) (k2 : Fin k3_t2_loop.trips) (x : PUnit),
      innerInv0 (U := U) d L Tx Ix Finset.univ n h k2.val x ⊢ wp frame (wpE (defs₀ (F := F)) 𝒱₀ (V d (cV L) (jV L)) none) Set.univ
        (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k k2 x) (fun y => innerInv0 (U := U) d L Tx Ix Finset.univ n h (k2.val + 1) y))
    (HR0 : ∀ (n : ℕ) (h : Buf (Elt F) ((V d (cV L) (jV L)).loc cc3_scratch1)) (_ : RowsOK L Tx Ix 0 n h) (k : Fin k3_t1_loop.trips) (v2 : BitVec 32) (k2 : Fin k3_t2_loop.trips) (x : PUnit),
      innerInv0 (U := U) d L Tx Ix (Finset.univ \ (obK1).view.set) n h k2.val x ⊢ wp frame (wpE (defs₀ (F := F)) 𝒱₀ (V d (cV L) (jV L)) none) Set.univ
        (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k k2 x) (fun y => innerInv0 (U := U) d L Tx Ix (Finset.univ \ (obK1).view.set) n h (k2.val + 1) y))
    (HR1 : ∀ (n : ℕ) (h : Buf (Elt F) ((V d (cV L) (jV L)).loc cc3_scratch1)) (_ : RowsOK L Tx Ix 1 n h) (k : Fin k3_t1_loop.trips) (v2 arg11 : BitVec 32) (k3 : Fin k3_t3_loop.trips) (x : PUnit),
      innerInv1 (U := U) d L Tx Ix n h k3.val x ⊢ wp frame (wpE (defs₀ (F := F)) 𝒱₀ (V d (cV L) (jV L)) none) Set.univ
        (k3_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k arg11 k3 x) (fun y => innerInv1 (U := U) d L Tx Ix n h (k3.val + 1) y))
    (HG0 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 0 n (View.write (Elt F) (rwK0).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HG1 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 1 n (View.write (Elt F) (rwK1).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HC0 : ∀ (k : Fin k3_t1_loop.trips) (fc : S10240x128.Idx → Elt F .f32) (fob : S2x4x128.Idx → Elt F .f32), SumsOK L Tx Ix 0 (2 * k.val) 4 fob →
      ChunkOK L Tx Ix k 0 ((oChunkK L k 0).view.writes (Elt F) fc [⟨Rect.whole S4x128, ReadAs.same.apply ((obK0).view.read (Elt F) fob)⟩]))
    (HC1 : ∀ (k : Fin k3_t1_loop.trips) (fc : S10240x128.Idx → Elt F .f32) (fob : S2x4x128.Idx → Elt F .f32), SumsOK L Tx Ix 1 (2 * k.val + 1) 4 fob →
      ChunkOK L Tx Ix k 1 ((oChunkK L k 1).view.writes (Elt F) fc [⟨Rect.whole S4x128, ReadAs.same.apply ((obK1).view.read (Elt F) fob)⟩]))
    (O : CellTallies nD τ sig (HIx 3)) (W : Waits sig (HIx 3)) (v2 : BitVec 32)
    (k : Fin k3_t1_loop.trips) (hk : k.val ≠ 0) (x : PUnit) :
    tripInvV (U := U) d L Tx Ix O W k.val x
      ⊢ wp frame (wpE (defs₀ (F := F)) 𝒱₀ (V d (cV L) (jV L)) none) Set.univ
          (k3_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k x)
          fun y => tripInvV (U := U) d L Tx Ix O W (k.val + 1) y := by
  have hc1 := cond1_pos k hk
  have hc2 := cond2_pos k hk
  have hrow : (k.val + 1 ≠ k.val) := Nat.succ_ne_self _
  unfold tripInvV
  rw [if_neg hk, if_neg hk]
  unfold gFl0 gFl1 oFl0 oFl1
  iintro ⟨#Hmw, ⟨%fr0, %fr1, %hrows, ⟨FG0, Hix0⟩, ⟨FG1, Hix1⟩⟩, ⟨%frr, Hrwr⟩, Hsh0, Hsh1, ⟨%fob, %fc0p, %fc1p, %fob0, %fob1, %hchk, FO0, FO1, Hobr⟩, Hrows, ⟨%W', %hW', HO⟩⟩
  ihave Hr := (Entails.of_eq (SparseCore.bigSep_erase' (Φ := fun t' : Fin k3_t1_loop.trips => rowStV (U := U) (F := F) d L Tx Ix k.val t') (Finset.mem_univ k))) $$ Hrows
  icases Hr with ⟨Hrow, Hrest⟩
  ihave Hrow' := (Entails.of_eq (rowStV_todo (F := F) (U := U) d L Tx Ix hrow (Nat.lt_irrefl _))) $$ Hrow
  icases Hrow' with ⟨⟨%fc0, Hoc0⟩, ⟨%fc1, Hoc1⟩⟩
  unfold k3_t1_body
  -- slot 0: its gather waited for
  sl_exec
  -- slot 0 of the row scratch, back from its gather, joined to what is held of the scratch
  ihave Hj := (pts_joinV (F := F) (U := U) (sdiff_join_disj rw_slots_disjoint) fr0 frr) $$ [FG0_dst Hrwr]
  · isplitl [FG0_dst]; · iexact FG0_dst
    iexact Hrwr
  icases Hj with ⟨%g1, %hg1, Hrw⟩
  have hr1 : RowsOK L Tx Ix 0 (2 * k.val) g1 := RowsOK_of_eq0 (F := F) L Tx Ix hrows.1 hg1
  rw [sdiff_join_left rw_slots_disjoint]
  -- slot 0 of the result scratch, back from its copy-out, joined to what is held of the scratch
  ihave Hjo := (pts_join (F := F) (U := U) (sdiff_join_disj ob_slots_disjoint) fob0 fob) $$ [FO0_src Hobr]
  · isplitl [FO0_src]; · iexact FO0_src
    iexact Hobr
  icases Hjo with ⟨%go1, Hob⟩
  rw [sdiff_join_left ob_slots_disjoint]
  -- the four sums of slot 0
  sl_for (innerInv0 (U := U) d L Tx Ix (Finset.univ \ (obK1).view.set) (2 * k.val) g1) $$ [Hrw Hob]
  case region =>
    intro k2 x2
    exact HR0 (2 * k.val) g1 hr1 k v2 k2 x2
  · unfold innerInv0
    iexists go1; isplitr; · ipureintro; exact SumsOK_zero (F := F) L Tx Ix 0 _ _
    isplitl [Hrw]; · iexact Hrw
    iexact Hob
  iintro %_ HI
  unfold innerInv0
  icases HI with ⟨%fobA, %hsA, Hrw, Hob⟩
  have hsA4 : SumsOK L Tx Ix 0 (2 * k.val) 4 fobA := hsA
  -- slot 0 copied out, its next gather started; slot 1's gather waited for
  sl_exec
  -- slot 1 of the row scratch joined
  ihave Hj := (pts_joinV (F := F) (U := U) (sdiff_join_disj rw_slots_disjoint.symm) fr1 _) $$ [FG1_dst Hrw]
  · isplitl [FG1_dst]; · iexact FG1_dst
    iexact Hrw
  icases Hj with ⟨%g2, %hg2, Hrw⟩
  have hr2 : RowsOK L Tx Ix 1 (2 * k.val + 1) g2 := RowsOK_of_eq1 (F := F) L Tx Ix hrows.2 hg2
  rw [sdiff_join_left rw_slots_disjoint.symm]
  -- slot 1 of the result scratch joined
  ihave Hjo := (pts_join (F := F) (U := U) (sdiff_join_disj ob_slots_disjoint.symm) fob1 _) $$ [FO1_src Hob]
  · isplitl [FO1_src]; · iexact FO1_src
    iexact Hob
  icases Hjo with ⟨%go2, Hob⟩
  rw [sdiff_join_left ob_slots_disjoint.symm]
  -- the four sums of slot 1
  sl_for (innerInv1 (U := U) d L Tx Ix (2 * k.val + 1) g2) $$ [Hrw Hob]
  case region =>
    intro k3 x3
    exact HR1 (2 * k.val + 1) g2 hr2 k v2 _ k3 x3
  · unfold innerInv1
    iexists go2; isplitr; · ipureintro; exact SumsOK_zero (F := F) L Tx Ix 1 _ _
    isplitl [Hrw]; · iexact Hrw
    iexact Hob
  iintro %_ HI
  unfold innerInv1
  icases HI with ⟨%fobB, %hsB, Hrw, Hob⟩
  have hsB4 : SumsOK L Tx Ix 1 (2 * k.val + 1) 4 fobB := hsB
  -- slot 1 copied out, its next gather started
  sl_exec
  sl_step
  -- the invariant, one trip on
  have h40 := lt_of_lt_of_eq k.isLt k3_trips_eq
  have hoff0 : k3_off21 k 0#32 = ![128 * (2 * (k.val + 1))] := by
    have h := k3_off21_eq k (0 : Fin 2)
    rw [show (BitVec.ofNat 32 ((0 : Fin 2) : ℕ)) = 0#32 from rfl] at h
    rw [h]; congr 1; simp; omega
  have hoff1 : k3_off21 k 1#32 = ![128 * (2 * (k.val + 1) + 1)] := by
    have h := k3_off21_eq k (1 : Fin 2)
    rw [show (BitVec.ofNat 32 ((1 : Fin 2) : ℕ)) = 1#32 from rfl] at h
    rw [h]; congr 1; simp; omega
  rw [if_neg (Nat.succ_ne_zero k.val), if_neg (Nat.succ_ne_zero k.val), Nat.add_sub_cancel, tFin_val]

  isplitr; · iexact Hmw
  isplitl [FG0 Hix0 FG1 Hix1]
  · iexists _; iexists _
    isplitr
    swap
    · isplitl [FG0 Hix0]
      · isplitl [FG0]; · iexact FG0
        iexact Hix0
      · isplitl [FG1]; · iexact FG1
        iexact Hix1
    ipureintro
    exact ⟨HG0 (2 * (k.val + 1)) (by omega) _ hoff0 _ _ _ _, HG1 (2 * (k.val + 1) + 1) (by omega) _ hoff1 _ _ _ _⟩
  isplitl [Hrw]; · iexists _; iexact Hrw
  isplitl [Hsh0]; · iexact Hsh0
  isplitl [Hsh1]; · iexact Hsh1
  isplitl [FO0 FO1 Hob]
  · iexists _; iexists _; iexists _; iexists _; iexists _
    isplitr
    swap
    · isplitl [FO0]; · iexact FO0
      isplitl [FO1]; · iexact FO1
      iexact Hob
    ipureintro
    exact ⟨HC0 k _ _ hsA4, HC1 k _ _ hsB4⟩
  isplitl [Hrest FO0_dst FO1_dst]
  · iapply (rows_stepSV (F := F) (U := U) d L Tx Ix k hk fc0p fc1p hchk.1 hchk.2)
    isplitl [Hrest]; · iexact Hrest
    isplitl [FO0_dst]; · iexact FO0_dst
    iexact FO1_dst
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One trip of the forty, with what the buffers hold. -/
theorem trip_regionV (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k3_t1_loop.trips) (x : PUnit) :
    tripInvV (U := U) d L Tx Ix O W k.val x
      ⊢ wp frame (wpE (defs₀ (F := F)) 𝒱₀ (V d (cV L) (jV L)) none) Set.univ
          (k3_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k x)
          fun y => tripInvV (U := U) d L Tx Ix O W (k.val + 1) y := by
  by_cases hk : k.val = 0
  · exact trip0V (F := F) (U := U) d L Tx Ix hinR
      (fun n h hr k v2 k2 x => inner_region0_first (F := F) (U := U) d L Tx Ix n h hr k v2 k2 x)
      (fun n h hr k v2 k2 x => inner_region0 (F := F) (U := U) d L Tx Ix n h hr k v2 k2 x)
      (fun n h hr k v2 a k3 x => inner_region1 (F := F) (U := U) d L Tx Ix n h hr k v2 a k3 x)
      (fun n hn off hoff inb g hnum hin' => rows_ok0 (F := F) L Tx Ix n hn off hoff inb g hnum hin')
      (fun n hn off hoff inb g hnum hin' => rows_ok1 (F := F) L Tx Ix n hn off hoff inb g hnum hin')
      (fun k fc fob hs => chunk_ok0 (F := F) L Tx Ix k fc fob hs)
      (fun k fc fob hs => chunk_ok1 (F := F) L Tx Ix k fc fob hs)
      O W v2 k hk x
  · exact tripSV (F := F) (U := U) d L Tx Ix hinR
      (fun n h hr k v2 k2 x => inner_region0_first (F := F) (U := U) d L Tx Ix n h hr k v2 k2 x)
      (fun n h hr k v2 k2 x => inner_region0 (F := F) (U := U) d L Tx Ix n h hr k v2 k2 x)
      (fun n h hr k v2 a k3 x => inner_region1 (F := F) (U := U) d L Tx Ix n h hr k v2 a k3 x)
      (fun n hn off hoff inb g hnum hin' => rows_ok0 (F := F) L Tx Ix n hn off hoff inb g hnum hin')
      (fun n hn off hoff inb g hnum hin' => rows_ok1 (F := F) L Tx Ix n hn off hoff inb g hnum hin')
      (fun k fc fob hs => chunk_ok0 (F := F) L Tx Ix k fc fob hs)
      (fun k fc fob hs => chunk_ok1 (F := F) L Tx Ix k fc fob hs)
      O W v2 k hk x

end Body
end Cert.Proof.Tile1
end
-- ==== Proof.BodyGenC1.lean ====
/-
  The gather-sum kernel on one vector subcore, stated over ANY schedule of the barrier cells.

  The subcore's run uses the barrier's schedule only through five facts at the call's round: every sibling's cell names
  the subcore as a duty of the round, each such duty is one unit, the subcore's own round expects sixteen units, the
  staged stripe splits into what is kept and what the sixteen duties hand over, and what the subcore's own round
  collects is its read share of the whole shared table.  With these as hypotheses, and the round and the call's number
  as parameters, one text serves every call and whatever schedule the launch fixed.  The forty trips' step is a
  hypothesis too.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC1
import proofs.«205366_g3083786518796_cont_9to1_852_38_alg».proof.Proof.BodyLemmasC1
import proofs.«205366_g3083786518796_cont_9to1_852_38_alg».proof.Proof.BodyInvC1
import proofs.«205366_g3083786518796_cont_9to1_852_38_alg».proof.Proof.BodyJoinC1

noncomputable section

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

section Body
variable (d : Dev nD) (L : grid3.Coords)

/-- The barrier kit over a schedule `Rd`, for round `r` (call `q`): every subcore's cell invariant of its SparseCore, its duty
    token in every subcore's round `r`, that each has reached round `r`, its own position at the origin of round `r`, and
    the credit for the sixteen units of its own round. -/
def bkitR (EB : Emb (URounds (GSem nD τ sig) ℕ) (MT nD τ sig (HIx 3) (Elt F) ℕ U ℕ)) (Rd : Rounds.Schedule (GSem nD τ sig) ℕ 𝕄) (r : ℕ) (q : Fin 3) (d : Dev nD) (c : Fin τ.nSC) (i : Fin τ.nSub) : sProp 𝕄 :=
  iprop((∃ κ : GSem nD τ sig → ℕ, bigSep Finset.univ fun j : Fin (grid3.bound 1) =>
      cellInv EB Rd (κ (bcell d c (j.castLE hsub3))) (bcell d c (j.castLE hsub3)))
    ∗ (bigSep Finset.univ fun j : Fin (grid3.bound 1) => dutyTok EB (bcell d c (j.castLE hsub3)) r i.val)
    ∗ (bigSep Finset.univ fun j : Fin (grid3.bound 1) => reached (D := ℕ) EB (bcell d c (j.castLE hsub3)) r)
    ∗ atPos EB (bcell d c i) r (∅ : Finset ℕ) 0
    ∗ cred (tallyAt (bcell d c i) (some q) (grid3.bound 1)))

set_option maxHeartbeats 4000000 in
/-- The kernel on vector subcore `L`: the index row and the stripe copied in and waited for (the executor); the barrier
    (the stripe's read shares handed over, every stripe's received); the two first gathers; the forty trips (the invariant
    `tripInv`, each trip `trip_region`); the four last waits. -/
theorem tile_body_gen (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid3.bound 1), (jV L).val ∈ Rd.duties (bcell d (cV L) (j.castLE hsub3)) rC)
    (hamt : ∀ j : Fin (grid3.bound 1), Rd.amount (bcell d (cV L) (j.castLE hsub3)) rC (jV L).val = 1)
    (hexp : 0 + grid3.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid3.bound 1) => Rd.payload (bcell d (cV L) (j.castLE hsub3)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (htrip : ∀ (v2 : BitVec 32) (k : Fin k3_t1_loop.trips) (x : PUnit),
      tripInv (F := F) (U := U) d L Tx Ix O
          (insert (SemLoc.reg sc_bar0, some qC) (insert (SemLoc.dma cc3_scoped1.sem, (default : HIx 3)) (insert (SemLoc.dma cc3_scoped0.sem, (default : HIx 3)) W))) k.val x
        ⊢ wp frame (wpE (defs₀ (F := F)) 𝒱₀ (V d (cV L) (jV L)) none) Set.univ
            (k3_t1_body L xV (Memref.isWhole_whole _) iV (Memref.isWhole_whole _) oV (Memref.isWhole_whole _)
              ixV (Memref.isWhole_whole _) rwV (Memref.isWhole_whole _) obV (Memref.isWhole_whole _) shV (Memref.isWhole_whole _)
              cc3_scratch4 cc3_scratch5 cc3_scoped0 cc3_scoped1 v2 k x)
            (tripInv (F := F) (U := U) d L Tx Ix O
              (insert (SemLoc.reg sc_bar0, some qC) (insert (SemLoc.dma cc3_scoped1.sem, (default : HIx 3)) (insert (SemLoc.dma cc3_scoped0.sem, (default : HIx 3)) W))) (k.val + 1)))
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f))
        ∗ (semVal (cell d L cc3_scoped0.sem) 0 ∗ semVal (cell d L cc3_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc3__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1)
          fun _ => iprop(tdT d L qx qi Tx Ix
            ∗ (atPos EB (bcell d (cV L) (jV L)) (rC + 1) (∅ : Finset ℕ) 0 ∗ reached (D := ℕ) EB (bcell d (cV L) (jV L)) (rC + 1))
            ∗ ((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f))
            ∗ (semVal (cell d L cc3_scoped0.sem) 0 ∗ semVal (cell d L cc3_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') := by
  simp only [cc3__sc_gather_sum_eq_skeleton]; unfold cc3__sc_gather_sum_skel
  unfold bkitR goT
  iintro ⟨#Hlv, ⟨⟨%κ, #Hinv⟩, Htoks, #Hrch, Hat, Hcred⟩, ⟨Hx, Hi, Ho, %fsh, Hsh⟩, ⟨⟨%f0, Hb0⟩, ⟨%f1, Hb1⟩, ⟨%f2, Hb2⟩⟩, ⟨HsA, HsB, Hg0, Hg1, Ho0, Ho1⟩, HO⟩
  have hO' : ∀ g, (O + oxV d (cV L) qC) g none = 0 := fun g => by rw [Pi.add_apply, Finsupp.add_apply, hO g, oxV_none]
  ihave Hmw1 := (show levAts (K (F := F)).L (K (F := F)).lev ⊢ Transfers.MayWaits (V d (cV L) (jV L)) (default : HIx 3) (O + oxV d (cV L) qC) from
    (K (F := F)).mayWaits_none (thr := V d (cV L) (jV L)) hO') $$ Hlv
  ihave Hmw2 := (show levAts (K (F := F)).L (K (F := F)).lev ⊢ Transfers.MayWaits (V d (cV L) (jV L)) (default : HIx 3) O from
    (K (F := F)).mayWaits_none (thr := V d (cV L) (jV L)) hO) $$ Hlv
  ihave Hx' := (Entails.of_eq (pts_x (F := F) (U := U) d L _ _).symm) $$ Hx
  ihave Hi' := (Entails.of_eq (pts_iRow (F := F) (U := U) d L _ _).symm) $$ Hi
  ihave Hsh' := (Entails.of_eq (pts_shStripe (F := F) (U := U) d L _ _).symm) $$ Hsh
  ihave Hix' := (Entails.of_eq (pts_ix (F := F) (U := U) d L _).symm) $$ Hb0
  ihave Hrw' := (Entails.of_eq (pts_rw (F := F) (U := U) d L _).symm) $$ Hb1
  ihave Hob' := (Entails.of_eq (pts_ob (F := F) (U := U) d L _).symm) $$ Hb2
  -- the index row into the index scratch, the stripe into the shared table, each waited for
  sl_exec (disch := first | exact View.amount_pos _ _ (stripe_numel_pos L) | exact View.dmaCredit_pos _ (stripe_numel_pos L))
  -- the barrier: the stripe, holding the table's rows, handed over by read shares; every stripe's share received
  unfold tile_body_gen.sl.dma0_1 tile_body_gen.sl.dma0
  ihave Hsh3 := (stripe_fix (F := F) (U := U) d L Tx fsh) $$ Hsh'
  ihave Hpk := hin_pay $$ Hsh3
  icases Hpk with ⟨Hkeep, Hpays⟩
  iapply (SparseCore.wp_subcoreBarrier 𝒱₀ none EB Rd d (sc := cV L) (i := jV L) sc_bar0 (grid3.bound 1) hsub3 (L 1) rfl κ (fun _ => rC) (jV L).val
      hmem hamt hexp (some qC) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) (8 * qC.val + 3) (fun p hp => by
        rw [Finset.mem_singleton] at hp; subst hp
        show (K (F := F)).lev (bcell d (cV L) (jV L)) (some qC) ≤ 8 * qC.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hrch1, Hgot⟩
  ihave Hall := hout_pay $$ Hgot
  -- the index scratch holds row `wid`; every window of it names rows of the table
  ihave Hix2 := (idx_fix (F := F) (U := U) d L Ix f0) $$ Hix'
  have hinR := idx_inb (F := F) L Ix hin
  ihave Hall' := (Entails.of_eq (show ((shV).view.loc (V d (cV L) (jV L)) ↦{shTok (jV L)} Tx : sProp 𝕄) = shLoc d (cV L) ↦{shTok (jV L)} Tx from rfl).symm) $$ Hall
  ihave HallS := (pointsTo_share (PosShare.mem_left_op_right (shTok (jV L)))).1 $$ Hall'
  icases HallS with ⟨HallA, HallB⟩
  ihave HixS := (pointsTo_share (PosShare.mem_left_op_right fullShare)).1 $$ Hix2
  icases HixS with ⟨HixA, HixB⟩
  -- the two first gathers
  sl_exec
  -- the forty trips
  sl_for (tripInv d L Tx Ix O (insert (SemLoc.reg sc_bar0, some qC) (insert (SemLoc.dma cc3_scoped1.sem, (default : HIx 3)) (insert (SemLoc.dma cc3_scoped0.sem, (default : HIx 3)) W)))) $$ [Hmw2 Hg0 Hg1 HixA HixB HallA HallB Hrw' Hob' Ho0 Ho1 Ho HO]
  case region =>
    intro k x
    unfold tile_body_gen.sl.prog.body_1
    exact htrip _ k x
  · unfold tripInv
    simp only [↓reduceIte]
    unfold gFl0 gFl1
    isplitr; · iexact Hmw2
    isplitl [Hg0 Hg1 HixA HixB]
    · iexists _; iexists _
      isplitl [Hg0 HixA]
      · isplitl [Hg0]; · iexact Hg0
        iexact HixA
      · isplitl [Hg1]; · iexact Hg1
        iexact HixB
    isplitl [Hrw']; · iexists _; iexact Hrw'
    isplitl [HallA]; · iexact HallA
    isplitl [HallB]; · iexact HallB
    isplitl [Hob' Ho0 Ho1]
    · iexists _
      isplitl [Hob']; · iexact Hob'
      isplitl [Ho0]; · iexact Ho0
      iexact Ho1
    isplitl [Ho]; · iapply (rows_of_chunks (F := F) (U := U) d L fo); iexact Ho
    iexists _; isplitr
    · ipureintro; exact fun p hp => .inl hp
    · iexact HO
  iintro %_ HI
  have htr : Scf.trips k3_t1_loop.lb k3_t1_loop.ub k3_t1_loop.st = 40 := by decide
  rw [htr]
  unfold tripInv
  simp only [show (40 : ℕ) ≠ 0 by decide, ↓reduceIte, show (40 : ℕ) - 1 = 39 by decide]
  unfold gFl0 gFl1 oFl0 oFl1
  icases HI with ⟨-, ⟨%fr0, %fr1, ⟨FG0, Hix0⟩, ⟨FG1, Hix1⟩⟩, ⟨%frr, Hrwr⟩, Hsh0, Hsh1, ⟨%fob, %fc0, %fc1, %fob0, %fob1, FO0, FO1, Hobr⟩, Hrows, ⟨%W', %hW', HO⟩⟩
  sl_exec
  sl_step
  unfold tdT
  -- the table's and the index row's shares, the result chunks, the shared table's read share and the kept remainder
  isplitl [Hx' Hi' Hrows FO0_dst FO1_dst Hsh0 Hsh1 Hkeep]
  · isplitl [Hx']; · iexact Hx'
    isplitl [Hi']; · iexact Hi'
    isplitl [Hrows FO0_dst FO1_dst]
    · iapply (rows_close (F := F) (U := U) d L fc0 fc1)
      isplitl [Hrows]; · iexact Hrows
      isplitl [FO0_dst]; · iexact FO0_dst
      iexact FO1_dst
    isplitl [Hsh0 Hsh1]
    · iapply (pointsTo_share (PosShare.mem_left_op_right (shTok (jV L)))).2
      isplitl [Hsh0]; · iexact Hsh0
      iexact Hsh1
    iexact Hkeep
  isplitl [Hat Hrch1]
  · isplitl [Hat]; · iexact Hat
    iexact Hrch1
  -- the scratches, whole again
  isplitl [Hix0 Hix1 FG0_dst FG1_dst Hrwr FO0_src FO1_src Hobr]
  · isplitl [Hix0 Hix1]
    · iexists _
      iapply (pointsTo_share (PosShare.mem_left_op_right fullShare)).2
      isplitl [Hix0]; · iexact Hix0
      iexact Hix1
    isplitl [FG0_dst FG1_dst Hrwr]
    · ihave H1 := (pts_join (F := F) (U := U) (sdiff_join_disj rw_slots_disjoint) fr0 frr) $$ [FG0_dst Hrwr]
      · isplitl [FG0_dst]; · iexact FG0_dst
        iexact Hrwr
      icases H1 with ⟨%g1, H1⟩
      rw [sdiff_join_left rw_slots_disjoint]
      ihave H2 := (pts_join (F := F) (U := U) Finset.disjoint_sdiff fr1 g1) $$ [FG1_dst H1]
      · isplitl [FG1_dst]; · iexact FG1_dst
        iexact H1
      icases H2 with ⟨%g2, H2⟩
      rw [sdiff_join_all]
      iexists g2; iexact H2
    · ihave H1 := (pts_join (F := F) (U := U) (sdiff_join_disj ob_slots_disjoint) fob0 fob) $$ [FO0_src Hobr]
      · isplitl [FO0_src]; · iexact FO0_src
        iexact Hobr
      icases H1 with ⟨%g1, H1⟩
      rw [sdiff_join_left ob_slots_disjoint]
      ihave H2 := (pts_join (F := F) (U := U) Finset.disjoint_sdiff fob1 g1) $$ [FO1_src H1]
      · isplitl [FO1_src]; · iexact FO1_src
        iexact H1
      icases H2 with ⟨%g2, H2⟩
      rw [sdiff_join_all]
      iexists g2; iexact H2
  -- the six semaphores at zero
  isplitl [HsA HsB FG0 FG1 FO0 FO1]
  · isplitl [HsA]; · iexact HsA
    isplitl [HsB]; · iexact HsB
    isplitl [FG0]; · iexact FG0
    isplitl [FG1]; · iexact FG1
    isplitl [FO0]; · iexact FO0
    iexact FO1
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

end Body
end Cert.Proof.Tile1
end
-- ==== Proof.BodyGenVC1.lean ====
/-
  The gather-sum kernel on one vector subcore, stated over ANY schedule of the barrier cells.

  The subcore's run uses the barrier's schedule only through five facts at the call's round: every sibling's cell names
  the subcore as a duty of the round, each such duty is one unit, the subcore's own round expects sixteen units, the
  staged stripe splits into what is kept and what the sixteen duties hand over, and what the subcore's own round
  collects is its read share of the whole shared table.  With these as hypotheses, and the round and the call's number
  as parameters, one text serves every call and whatever schedule the launch fixed.  The forty trips' step is a
  hypothesis too.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC1
import proofs.«205366_g3083786518796_cont_9to1_852_38_alg».proof.Proof.BodyLemmasC1
import proofs.«205366_g3083786518796_cont_9to1_852_38_alg».proof.Proof.BodyInvC1
import proofs.«205366_g3083786518796_cont_9to1_852_38_alg».proof.Proof.BodyJoinC1
import proofs.«205366_g3083786518796_cont_9to1_852_38_alg».proof.Proof.BodyGenC1
import proofs.«205366_g3083786518796_cont_9to1_852_38_alg».proof.Proof.BodyStepVC1
import proofs.«205366_g3083786518796_cont_9to1_852_38_alg».proof.Proof.BodyStepsVC1

noncomputable section

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

section Body
variable (d : Dev nD) (L : grid3.Coords)

open Idealize.ShloMosaic.ValueIdx (ix1 ix2 ix3)

section GV
variable (Tx : S10000x128.Idx → Elt F .f32) (Ix : S32x10496.Idx → Elt F .i32)

/-- Handed back, with what the chunks hold: as `tdT`, every result chunk at its rows of the neighbour-sum array. -/
def tdTV (qx qi : PosShare TreeShare) : sProp 𝕄 :=
  iprop((xLoc d ↦{qx} Tx) ∗ (iLoc d ↦[iRowSet L]{qi} Ix)
    ∗ (bigSep Finset.univ fun tb : Fin k3_t1_loop.trips × Fin 2 =>
        iprop(∃ f, (oLoc d ↦[oChunkSet L tb.1 tb.2]{fullShare} f) ∗ ⌜∀ x ∈ oChunkSet L tb.1 tb.2, f x = Cert.Proof.KI.gsumF (F := F) Tx Ix x⌝))
    ∗ (shLoc d (cV L) ↦{shTok (jV L)} Tx) ∗ (shLoc d (cV L) ↦[stripe (jL L)]{shKeep} Tx))

theorem rows_of_chunksV (fo : S10240x128.Idx → Elt F .f32) :
    (bigSep Finset.univ fun tb : Fin k3_t1_loop.trips × Fin 2 => (oLoc d ↦[oChunkSet L tb.1 tb.2]{fullShare} fo : sProp 𝕄))
    ⊢ bigSep Finset.univ fun t' : Fin k3_t1_loop.trips => rowStV (U := U) d L Tx Ix 0 t' := by
  rw [bigSep_univ_prod]
  refine bigSep_mono fun t' _ => ?_
  rw [bigSep_univ_two, rowStV_todo (F := F) (U := U) d L Tx Ix (Nat.succ_ne_zero _) (Nat.not_lt_zero _)]
  exact row_intro (F := F) (U := U) d L t' fo

theorem row_elimV (t' : Fin k3_t1_loop.trips) :
    (iprop((∃ f, ⌜ChunkOK L Tx Ix t' 0 f⌝ ∗ ((oChunkK L t' 0).view.loc (V d (cV L) (jV L)) ↦[(oChunkK L t' 0).view.set]{fullShare} f))
      ∗ (∃ f, ⌜ChunkOK L Tx Ix t' 1 f⌝ ∗ ((oChunkK L t' 1).view.loc (V d (cV L) (jV L)) ↦[(oChunkK L t' 1).view.set]{fullShare} f))) : sProp 𝕄)
    ⊢ iprop((∃ f, (oLoc d ↦[oChunkSet L t' 0]{fullShare} f) ∗ ⌜∀ x ∈ oChunkSet L t' 0, f x = Cert.Proof.KI.gsumF (F := F) Tx Ix x⌝)
        ∗ (∃ f, (oLoc d ↦[oChunkSet L t' 1]{fullShare} f) ∗ ⌜∀ x ∈ oChunkSet L t' 1, f x = Cert.Proof.KI.gsumF (F := F) Tx Ix x⌝)) := by
  iintro ⟨⟨%f0, %h0, H0⟩, ⟨%f1, %h1, H1⟩⟩
  isplitl [H0]
  · iexists f0; isplitl [H0]
    · iapply (Entails.of_eq (pts_oChunk (F := F) (U := U) d L t' 0 f0)); iexact H0
    · ipureintro; exact h0
  · iexists f1; isplitl [H1]
    · iapply (Entails.of_eq (pts_oChunk (F := F) (U := U) d L t' 1 f1)); iexact H1
    · ipureintro; exact h1

/-- All result chunks held again, each at its rows of the neighbour-sum array. -/
theorem rows_closeV (fc0 fc1 : S10240x128.Idx → Elt F .f32) (h0 : ChunkOK L Tx Ix (tFin 39) 0 fc0) (h1 : ChunkOK L Tx Ix (tFin 39) 1 fc1) :
    iprop((bigSep Finset.univ fun t' : Fin k3_t1_loop.trips => rowStV (U := U) (F := F) d L Tx Ix 40 t')
      ∗ ((oChunkK L (tFin 39) 0).view.loc (V d (cV L) (jV L)) ↦[(oChunkK L (tFin 39) 0).view.set]{fullShare} fc0)
      ∗ ((oChunkK L (tFin 39) 1).view.loc (V d (cV L) (jV L)) ↦[(oChunkK L (tFin 39) 1).view.set]{fullShare} fc1))
    ⊢ bigSep Finset.univ fun tb : Fin k3_t1_loop.trips × Fin 2 =>
        (iprop(∃ f, (oLoc d ↦[oChunkSet L tb.1 tb.2]{fullShare} f) ∗ ⌜∀ x ∈ oChunkSet L tb.1 tb.2, f x = Cert.Proof.KI.gsumF (F := F) Tx Ix x⌝) : sProp 𝕄) := by
  rw [bigSep_univ_prod]
  have hrest : Idealize.SL.BI.Entails
      (bigSep (Finset.univ.erase (tFin 39)) fun t' : Fin k3_t1_loop.trips => rowStV (U := U) (F := F) d L Tx Ix 40 t')
      (bigSep (Finset.univ.erase (tFin 39)) fun t' : Fin k3_t1_loop.trips => bigSep Finset.univ fun b : Fin 2 =>
        (iprop(∃ f, (oLoc d ↦[oChunkSet L (t', b).1 (t', b).2]{fullShare} f) ∗ ⌜∀ x ∈ oChunkSet L (t', b).1 (t', b).2, f x = Cert.Proof.KI.gsumF (F := F) Tx Ix x⌝) : sProp 𝕄)) :=
    bigSep_mono fun t' ht' => by
      have hne : t'.val + 1 ≠ 40 := fun h => (Finset.mem_erase.mp ht').1 (Fin.ext (by show t'.val = min 39 39; omega))
      have hlt : t'.val < 40 := lt_of_lt_of_eq t'.isLt k3_trips_eq
      rw [bigSep_univ_two, rowStV_done (F := F) (U := U) d L Tx Ix hne hlt]
      exact row_elimV (F := F) (U := U) d L Tx Ix t'
  iintro ⟨Hrows, H0, H1⟩
  ihave Hr := (Entails.of_eq (SparseCore.bigSep_erase' (Φ := fun t' : Fin k3_t1_loop.trips => rowStV (U := U) (F := F) d L Tx Ix 40 t') (Finset.mem_univ (tFin 39)))) $$ Hrows
  icases Hr with ⟨-, Hrest⟩
  iapply (Entails.of_eq (SparseCore.bigSep_erase' (Φ := fun t' : Fin k3_t1_loop.trips => bigSep Finset.univ fun b : Fin 2 =>
    (iprop(∃ f, (oLoc d ↦[oChunkSet L (t', b).1 (t', b).2]{fullShare} f) ∗ ⌜∀ x ∈ oChunkSet L (t', b).1 (t', b).2, f x = Cert.Proof.KI.gsumF (F := F) Tx Ix x⌝) : sProp 𝕄)) (Finset.mem_univ (tFin 39))).symm)
  isplitl [H0 H1]
  · rw [bigSep_univ_two]
    isplitl [H0]
    · iexists fc0; isplitl [H0]
      · iapply (Entails.of_eq (pts_oChunk (F := F) (U := U) d L (tFin 39) 0 fc0)); iexact H0
      · ipureintro; exact h0
    · iexists fc1; isplitl [H1]
      · iapply (Entails.of_eq (pts_oChunk (F := F) (U := U) d L (tFin 39) 1 fc1)); iexact H1
      · ipureintro; exact h1
  · iapply (SparseCore.ent hrest) $$ Hrest

end GV

set_option maxHeartbeats 4000000 in
/-- The kernel on vector subcore `L`: the index row and the stripe copied in and waited for (the executor); the barrier
    (the stripe's read shares handed over, every stripe's received); the two first gathers; the forty trips (the invariant
    `tripInv`, each trip `trip_region`); the four last waits. -/
theorem tile_body_genV (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid3.bound 1), (jV L).val ∈ Rd.duties (bcell d (cV L) (j.castLE hsub3)) rC)
    (hamt : ∀ j : Fin (grid3.bound 1), Rd.amount (bcell d (cV L) (j.castLE hsub3)) rC (jV L).val = 1)
    (hexp : 0 + grid3.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid3.bound 1) => Rd.payload (bcell d (cV L) (j.castLE hsub3)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (htrip : ∀ (v2 : BitVec 32) (k : Fin k3_t1_loop.trips) (x : PUnit),
      tripInvV (F := F) (U := U) d L Tx Ix O
          (insert (SemLoc.reg sc_bar0, some qC) (insert (SemLoc.dma cc3_scoped1.sem, (default : HIx 3)) (insert (SemLoc.dma cc3_scoped0.sem, (default : HIx 3)) W))) k.val x
        ⊢ wp frame (wpE (defs₀ (F := F)) 𝒱₀ (V d (cV L) (jV L)) none) Set.univ
            (k3_t1_body L xV (Memref.isWhole_whole _) iV (Memref.isWhole_whole _) oV (Memref.isWhole_whole _)
              ixV (Memref.isWhole_whole _) rwV (Memref.isWhole_whole _) obV (Memref.isWhole_whole _) shV (Memref.isWhole_whole _)
              cc3_scratch4 cc3_scratch5 cc3_scoped0 cc3_scoped1 v2 k x)
            (tripInvV (F := F) (U := U) d L Tx Ix O
              (insert (SemLoc.reg sc_bar0, some qC) (insert (SemLoc.dma cc3_scoped1.sem, (default : HIx 3)) (insert (SemLoc.dma cc3_scoped0.sem, (default : HIx 3)) W))) (k.val + 1)))
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f))
        ∗ (semVal (cell d L cc3_scoped0.sem) 0 ∗ semVal (cell d L cc3_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc3__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1)
          fun _ => iprop(tdTV d L Tx Ix qx qi
            ∗ (atPos EB (bcell d (cV L) (jV L)) (rC + 1) (∅ : Finset ℕ) 0 ∗ reached (D := ℕ) EB (bcell d (cV L) (jV L)) (rC + 1))
            ∗ ((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f))
            ∗ (semVal (cell d L cc3_scoped0.sem) 0 ∗ semVal (cell d L cc3_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') := by
  simp only [cc3__sc_gather_sum_eq_skeleton]; unfold cc3__sc_gather_sum_skel
  unfold bkitR goT
  iintro ⟨#Hlv, ⟨⟨%κ, #Hinv⟩, Htoks, #Hrch, Hat, Hcred⟩, ⟨Hx, Hi, Ho, %fsh, Hsh⟩, ⟨⟨%f0, Hb0⟩, ⟨%f1, Hb1⟩, ⟨%f2, Hb2⟩⟩, ⟨HsA, HsB, Hg0, Hg1, Ho0, Ho1⟩, HO⟩
  have hO' : ∀ g, (O + oxV d (cV L) qC) g none = 0 := fun g => by rw [Pi.add_apply, Finsupp.add_apply, hO g, oxV_none]
  ihave Hmw1 := (show levAts (K (F := F)).L (K (F := F)).lev ⊢ Transfers.MayWaits (V d (cV L) (jV L)) (default : HIx 3) (O + oxV d (cV L) qC) from
    (K (F := F)).mayWaits_none (thr := V d (cV L) (jV L)) hO') $$ Hlv
  ihave Hmw2 := (show levAts (K (F := F)).L (K (F := F)).lev ⊢ Transfers.MayWaits (V d (cV L) (jV L)) (default : HIx 3) O from
    (K (F := F)).mayWaits_none (thr := V d (cV L) (jV L)) hO) $$ Hlv
  ihave Hx' := (Entails.of_eq (pts_x (F := F) (U := U) d L _ _).symm) $$ Hx
  ihave Hi' := (Entails.of_eq (pts_iRow (F := F) (U := U) d L _ _).symm) $$ Hi
  ihave Hsh' := (Entails.of_eq (pts_shStripe (F := F) (U := U) d L _ _).symm) $$ Hsh
  ihave Hix' := (Entails.of_eq (pts_ix (F := F) (U := U) d L _).symm) $$ Hb0
  ihave Hrw' := (Entails.of_eq (pts_rw (F := F) (U := U) d L _).symm) $$ Hb1
  ihave Hob' := (Entails.of_eq (pts_ob (F := F) (U := U) d L _).symm) $$ Hb2
  -- the index row into the index scratch, the stripe into the shared table, each waited for
  sl_exec (disch := first | exact View.amount_pos _ _ (stripe_numel_pos L) | exact View.dmaCredit_pos _ (stripe_numel_pos L))
  -- the barrier: the stripe, holding the table's rows, handed over by read shares; every stripe's share received
  unfold tile_body_genV.sl.dma0_1 tile_body_genV.sl.dma0
  ihave Hsh3 := (stripe_fix (F := F) (U := U) d L Tx fsh) $$ Hsh'
  ihave Hpk := hin_pay $$ Hsh3
  icases Hpk with ⟨Hkeep, Hpays⟩
  iapply (SparseCore.wp_subcoreBarrier 𝒱₀ none EB Rd d (sc := cV L) (i := jV L) sc_bar0 (grid3.bound 1) hsub3 (L 1) rfl κ (fun _ => rC) (jV L).val
      hmem hamt hexp (some qC) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) (8 * qC.val + 3) (fun p hp => by
        rw [Finset.mem_singleton] at hp; subst hp
        show (K (F := F)).lev (bcell d (cV L) (jV L)) (some qC) ≤ 8 * qC.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hrch1, Hgot⟩
  ihave Hall := hout_pay $$ Hgot
  -- the index scratch holds row `wid`; every window of it names rows of the table
  ihave Hix2 := (idx_fix (F := F) (U := U) d L Ix f0) $$ Hix'
  have hinR := idx_inb (F := F) L Ix hin
  ihave Hall' := (Entails.of_eq (show ((shV).view.loc (V d (cV L) (jV L)) ↦{shTok (jV L)} Tx : sProp 𝕄) = shLoc d (cV L) ↦{shTok (jV L)} Tx from rfl).symm) $$ Hall
  ihave HallS := (pointsTo_share (PosShare.mem_left_op_right (shTok (jV L)))).1 $$ Hall'
  icases HallS with ⟨HallA, HallB⟩
  ihave HixS := (pointsTo_share (PosShare.mem_left_op_right fullShare)).1 $$ Hix2
  icases HixS with ⟨HixA, HixB⟩
  -- the two first gathers
  sl_exec
  -- the forty trips
  sl_for (tripInvV d L Tx Ix O (insert (SemLoc.reg sc_bar0, some qC) (insert (SemLoc.dma cc3_scoped1.sem, (default : HIx 3)) (insert (SemLoc.dma cc3_scoped0.sem, (default : HIx 3)) W)))) $$ [Hmw2 Hg0 Hg1 HixA HixB HallA HallB Hrw' Hob' Ho0 Ho1 Ho HO]
  case region =>
    intro k x
    unfold tile_body_genV.sl.prog.body_1
    exact htrip _ k x
  · unfold tripInvV
    simp only [↓reduceIte]
    unfold gFl0 gFl1
    isplitr; · iexact Hmw2
    isplitl [Hg0 Hg1 HixA HixB]
    · iexists _; iexists _
      isplitr
      swap
      · isplitl [Hg0 HixA]
        · isplitl [Hg0]; · iexact Hg0
          iexact HixA
        · isplitl [Hg1]; · iexact Hg1
          iexact HixB
      ipureintro
      exact ⟨rows_ok0 (F := F) L Tx Ix 0 (by omega) _ rfl _ _ _ _, rows_ok1 (F := F) L Tx Ix 1 (by omega) _ rfl _ _ _ _⟩
    isplitl [Hrw']; · iexists _; iexact Hrw'
    isplitl [HallA]; · iexact HallA
    isplitl [HallB]; · iexact HallB
    isplitl [Hob' Ho0 Ho1]
    · iexists _
      isplitl [Hob']; · iexact Hob'
      isplitl [Ho0]; · iexact Ho0
      iexact Ho1
    isplitl [Ho]; · iapply (rows_of_chunksV (F := F) (U := U) d L Tx Ix fo); iexact Ho
    iexists _; isplitr
    · ipureintro; exact fun p hp => .inl hp
    · iexact HO
  iintro %_ HI
  have htr : Scf.trips k3_t1_loop.lb k3_t1_loop.ub k3_t1_loop.st = 40 := by decide
  rw [htr]
  unfold tripInvV
  simp only [show (40 : ℕ) ≠ 0 by decide, ↓reduceIte, show (40 : ℕ) - 1 = 39 by decide]
  unfold gFl0 gFl1 oFl0 oFl1
  icases HI with ⟨-, ⟨%fr0, %fr1, -, ⟨FG0, Hix0⟩, ⟨FG1, Hix1⟩⟩, ⟨%frr, Hrwr⟩, Hsh0, Hsh1, ⟨%fob, %fc0, %fc1, %fob0, %fob1, %hchk, FO0, FO1, Hobr⟩, Hrows, ⟨%W', %hW', HO⟩⟩
  sl_exec
  sl_step
  unfold tdTV
  -- the table's and the index row's shares, the result chunks, the shared table's read share and the kept remainder
  isplitl [Hx' Hi' Hrows FO0_dst FO1_dst Hsh0 Hsh1 Hkeep]
  · isplitl [Hx']; · iexact Hx'
    isplitl [Hi']; · iexact Hi'
    isplitl [Hrows FO0_dst FO1_dst]
    · iapply (rows_closeV (F := F) (U := U) d L Tx Ix fc0 fc1 hchk.1 hchk.2)
      isplitl [Hrows]; · iexact Hrows
      isplitl [FO0_dst]; · iexact FO0_dst
      iexact FO1_dst
    isplitl [Hsh0 Hsh1]
    · iapply (pointsTo_share (PosShare.mem_left_op_right (shTok (jV L)))).2
      isplitl [Hsh0]; · iexact Hsh0
      iexact Hsh1
    iexact Hkeep
  isplitl [Hat Hrch1]
  · isplitl [Hat]; · iexact Hat
    iexact Hrch1
  -- the scratches, whole again
  isplitl [Hix0 Hix1 FG0_dst FG1_dst Hrwr FO0_src FO1_src Hobr]
  · isplitl [Hix0 Hix1]
    · iexists _
      iapply (pointsTo_share (PosShare.mem_left_op_right fullShare)).2
      isplitl [Hix0]; · iexact Hix0
      iexact Hix1
    isplitl [FG0_dst FG1_dst Hrwr]
    · ihave H1 := (pts_join (F := F) (U := U) (sdiff_join_disj rw_slots_disjoint) fr0 frr) $$ [FG0_dst Hrwr]
      · isplitl [FG0_dst]; · iexact FG0_dst
        iexact Hrwr
      icases H1 with ⟨%g1, H1⟩
      rw [sdiff_join_left rw_slots_disjoint]
      ihave H2 := (pts_join (F := F) (U := U) Finset.disjoint_sdiff fr1 g1) $$ [FG1_dst H1]
      · isplitl [FG1_dst]; · iexact FG1_dst
        iexact H1
      icases H2 with ⟨%g2, H2⟩
      rw [sdiff_join_all]
      iexists g2; iexact H2
    · ihave H1 := (pts_join (F := F) (U := U) (sdiff_join_disj ob_slots_disjoint) fob0 fob) $$ [FO0_src Hobr]
      · isplitl [FO0_src]; · iexact FO0_src
        iexact Hobr
      icases H1 with ⟨%g1, H1⟩
      rw [sdiff_join_left ob_slots_disjoint]
      ihave H2 := (pts_join (F := F) (U := U) Finset.disjoint_sdiff fob1 g1) $$ [FO1_src H1]
      · isplitl [FO1_src]; · iexact FO1_src
        iexact H1
      icases H2 with ⟨%g2, H2⟩
      rw [sdiff_join_all]
      iexists g2; iexact H2
  -- the six semaphores at zero
  isplitl [HsA HsB FG0 FG1 FO0 FO1]
  · isplitl [HsA]; · iexact HsA
    isplitl [HsB]; · iexact HsB
    isplitl [FG0]; · iexact FG0
    isplitl [FG1]; · iexact FG1
    isplitl [FO0]; · iexact FO0
    iexact FO1
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

end Body
end Cert.Proof.Tile1
end
-- ==== Proof.BodyFrameVC1.lean ====
/-
  The gather-sum kernel on one vector subcore, with what it computes: run from what the subcore is handed to what it hands
  back, every result chunk holding its rows of the neighbour-sum array; every trip of the forty proved.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC1
import proofs.«205366_g3083786518796_cont_9to1_852_38_alg».proof.Proof.BodyLemmasC1
import proofs.«205366_g3083786518796_cont_9to1_852_38_alg».proof.Proof.BodyInvC1
import proofs.«205366_g3083786518796_cont_9to1_852_38_alg».proof.Proof.BodyJoinC1
import proofs.«205366_g3083786518796_cont_9to1_852_38_alg».proof.Proof.GSum
import proofs.«205366_g3083786518796_cont_9to1_852_38_alg».proof.Proof.BodyInvVC1
import proofs.«205366_g3083786518796_cont_9to1_852_38_alg».proof.Proof.BodyTripC1
import proofs.«205366_g3083786518796_cont_9to1_852_38_alg».proof.Proof.BodyStepVC1
import proofs.«205366_g3083786518796_cont_9to1_852_38_alg».proof.Proof.BodyInnerVC1
import proofs.«205366_g3083786518796_cont_9to1_852_38_alg».proof.Proof.BodyStepsVC1
import proofs.«205366_g3083786518796_cont_9to1_852_38_alg».proof.Proof.BodyTripVC1
import proofs.«205366_g3083786518796_cont_9to1_852_38_alg».proof.Proof.BodyGenVC1
import Idealize.ShloMosaic.Lib.ValueIdx

noncomputable section

namespace Cert.Proof.Tile1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v11_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v12_scv : Memref Cert.KernelIdeal.sig Kind.scVector Space.hbm Cert.KernelIdeal.S10240x128 EltTy.f32)
local notation "ixV" => (Memref.whole Cert.KernelIdeal.cc3_scratch0 : Memref Cert.KernelIdeal.sig Kind.scVector Space.vmem Cert.KernelIdeal.S10496 EltTy.i32)
local notation "rwV" => (Memref.whole Cert.KernelIdeal.cc3_scratch1 : Memref Cert.KernelIdeal.sig Kind.scVector Space.vmem Cert.KernelIdeal.S2x128x128 EltTy.f32)
local notation "obV" => (Memref.whole Cert.KernelIdeal.cc3_scratch2 : Memref Cert.KernelIdeal.sig Kind.scVector Space.vmem Cert.KernelIdeal.S2x4x128 EltTy.f32)
local notation "shV" => (Memref.whole Cert.KernelIdeal.cc3_scratch3 : Memref Cert.KernelIdeal.sig Kind.scVector Space.shared Cert.KernelIdeal.S10000x128 EltTy.f32)

section Body
variable (d : Dev nD) (L : grid3.Coords)

open Idealize.ShloMosaic.ValueIdx (ix1 ix2 ix3)

/-- The kernel on vector subcore `L`, every trip proved, the result chunks at their sums. -/
theorem tile_body_frameV (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid3.bound 1), (jV L).val ∈ Rd.duties (bcell d (cV L) (j.castLE hsub3)) rC)
    (hamt : ∀ j : Fin (grid3.bound 1), Rd.amount (bcell d (cV L) (j.castLE hsub3)) rC (jV L).val = 1)
    (hexp : 0 + grid3.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid3.bound 1) => Rd.payload (bcell d (cV L) (j.castLE hsub3)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f))
        ∗ (semVal (cell d L cc3_scoped0.sem) 0 ∗ semVal (cell d L cc3_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc3__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1)
          fun _ => iprop(tdTV d L Tx Ix qx qi
            ∗ (atPos EB (bcell d (cV L) (jV L)) (rC + 1) (∅ : Finset ℕ) 0 ∗ reached (D := ℕ) EB (bcell d (cV L) (jV L)) (rC + 1))
            ∗ ((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f))
            ∗ (semVal (cell d L cc3_scoped0.sem) 0 ∗ semVal (cell d L cc3_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') :=
  tile_body_genV (F := F) (U := U) d L EB Rd rC qC qx qi Tx Ix fo hmem hamt hexp hin_pay hout_pay hin O W hO
    (fun v2 k x => trip_regionV (F := F) (U := U) d L Tx Ix (idx_inb (F := F) L Ix hin) O _ v2 k x) hOlev
end Body
end Cert.Proof.Tile1
end
-- ==== Proof.BodyInvC2.lean ====
/-
  The invariant of the gather-sum kernel's forty trips, for one vector subcore: which gathers and copy-outs are in flight
  when `t` trips are done, and what of the scratches, of the shared table's read shares and of the result chunks is held.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC2
import proofs.«205366_g3083786518796_cont_9to1_852_38_alg».proof.Proof.BodyLemmasC2

noncomputable section

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

section Body
variable (d : Dev nD) (L : grid5.Coords)

/-! ## The forty trips' invariant -/

theorem k5_trips_eq : k5_t1_loop.trips = 40 := by decide

/-- Trip `n` as an index of the loop (clamped). -/
def tFin (n : ℕ) : Fin k5_t1_loop.trips := ⟨min n 39, by rw [k5_trips_eq]; omega⟩
theorem tFin_val (k : Fin k5_t1_loop.trips) : tFin k.val = k := Fin.ext (by have h := lt_of_lt_of_eq k.isLt k5_trips_eq; show min k.val 39 = k.val; omega)

/-- The index windows of the two gathers started before the loop, and of those a trip starts. -/
abbrev ixLit0 : Memref sig .scVector .vmem S128 .i32 := (ixV).slice (Rect.unit (s := S10496) ![0] S128.size inb_S10496_S128_0) (fun _ => rfl)
abbrev ixLit1 : Memref sig .scVector .vmem S128 .i32 := (ixV).slice (Rect.unit (s := S10496) ![128] S128.size inb_S10496_S128_128) (fun _ => rfl)
abbrev ixLoop0 (t : Fin k5_t1_loop.trips) : Memref sig .scVector .vmem S128 .i32 := (ixV).slice (Rect.unit (s := S10496) (k5_off21 t 0#32) S128.size (k5_off21_inb t 0)) (fun _ => rfl)
abbrev ixLoop1 (t : Fin k5_t1_loop.trips) : Memref sig .scVector .vmem S128 .i32 := (ixV).slice (Rect.unit (s := S10496) (k5_off21 t 1#32) S128.size (k5_off21_inb t 1)) (fun _ => rfl)

abbrev ixLoopSet0 (t : Fin k5_t1_loop.trips) : Finset S10496.Idx := (ixLoop0 t).view.set
abbrev ixLoopSet1 (t : Fin k5_t1_loop.trips) : Finset S10496.Idx := (ixLoop1 t).view.set
abbrev ixLitSet0 : Finset S10496.Idx := (ixLit0).view.set
abbrev ixLitSet1 : Finset S10496.Idx := (ixLit1).view.set

section Inv

variable (Tx : S10000x128.Idx → Elt F .f32) (Ix : S32x10496.Idx → Elt F .i32)

/-- A gather in flight into slot 0 (resp. 1) of the row scratch, over the index window `w`, and the rest of that window's
    share of the index scratch. -/
def gFl0 (ws : Finset S10496.Idx) (fr : Buf (Elt F) ((V d (cV L) (jV L)).loc cc5_scratch1)) : sProp 𝕄 :=
  iprop(Transfers.Flight (countersEmb : UEmb Counters 𝕄) (V d (cV L) (jV L)) (SemLoc.dma g0sem) (default : HIx 3) 524288
      iprop((((rwV).view.loc (V d (cV L) (jV L)) ↦[(rwK0).view.set]{fullShare} fr)
          ∗ ((ixV).view.loc (V d (cV L) (jV L)) ↦[ws]{fullShare.left} (iRowK L).view.read (Elt F) Ix))
        ∗ ((shV).view.loc (V d (cV L) (jV L)) ↦[(shAllK).view.set]{(shTok (jV L)).left} Tx))
    ∗ ((ixV).view.loc (V d (cV L) (jV L)) ↦[Finset.univ \ ws]{fullShare.left} (iRowK L).view.read (Elt F) Ix))
def gFl1 (ws : Finset S10496.Idx) (fr : Buf (Elt F) ((V d (cV L) (jV L)).loc cc5_scratch1)) : sProp 𝕄 :=
  iprop(Transfers.Flight (countersEmb : UEmb Counters 𝕄) (V d (cV L) (jV L)) (SemLoc.dma g1sem) (default : HIx 3) 524288
      iprop((((rwV).view.loc (V d (cV L) (jV L)) ↦[(rwK1).view.set]{fullShare} fr)
          ∗ ((ixV).view.loc (V d (cV L) (jV L)) ↦[ws]{fullShare.right} (iRowK L).view.read (Elt F) Ix))
        ∗ ((shV).view.loc (V d (cV L) (jV L)) ↦[(shAllK).view.set]{(shTok (jV L)).right} Tx))
    ∗ ((ixV).view.loc (V d (cV L) (jV L)) ↦[Finset.univ \ ws]{fullShare.right} (iRowK L).view.read (Elt F) Ix))

/-- A copy-out in flight from slot 0 (resp. 1) of the result scratch to the chunk of trip `t`. -/
def oFl0 (t : Fin k5_t1_loop.trips) (fc : S10240x128.Idx → Elt F .f32) (fob : Buf (Elt F) ((V d (cV L) (jV L)).loc cc5_scratch2)) : sProp 𝕄 :=
  Transfers.Flight (countersEmb : UEmb Counters 𝕄) (V d (cV L) (jV L)) (SemLoc.dma o0sem) (default : HIx 3) 16384
    iprop(((oChunkK L t 0).view.loc (V d (cV L) (jV L)) ↦[(oChunkK L t 0).view.set]{fullShare} fc)
      ∗ ((obV).view.loc (V d (cV L) (jV L)) ↦[(obK0).view.set]{fullShare} fob))
def oFl1 (t : Fin k5_t1_loop.trips) (fc : S10240x128.Idx → Elt F .f32) (fob : Buf (Elt F) ((V d (cV L) (jV L)).loc cc5_scratch2)) : sProp 𝕄 :=
  Transfers.Flight (countersEmb : UEmb Counters 𝕄) (V d (cV L) (jV L)) (SemLoc.dma o1sem) (default : HIx 3) 16384
    iprop(((oChunkK L t 1).view.loc (V d (cV L) (jV L)) ↦[(oChunkK L t 1).view.set]{fullShare} fc)
      ∗ ((obV).view.loc (V d (cV L) (jV L)) ↦[(obK1).view.set]{fullShare} fob))

/-- The two result chunks of trip `t'` when `t` trips are done: in flight (trip `t - 1`'s), else held at some contents. -/
def rowSt (t : ℕ) (t' : Fin k5_t1_loop.trips) : sProp 𝕄 :=
  if t'.val + 1 = t then iprop(emp)
  else iprop((∃ f, (oChunkK L t' 0).view.loc (V d (cV L) (jV L)) ↦[(oChunkK L t' 0).view.set]{fullShare} f)
    ∗ (∃ f, (oChunkK L t' 1).view.loc (V d (cV L) (jV L)) ↦[(oChunkK L t' 1).view.set]{fullShare} f))

/-- When `t` trips are done: the gathers of chunks `2 t` and `2 t + 1` are in flight; the copy-outs of trip `t - 1` are
    (none before the first trip); the scratches less the slots in flight are held; the shared table's two read shares less
    nothing; every other result chunk is held. -/
def tripInv (O : CellTallies nD τ sig (HIx 3)) (W : Waits sig (HIx 3)) (t : ℕ) (_ : PUnit) : sProp 𝕄 :=
  iprop(Transfers.MayWaits (V d (cV L) (jV L)) (default : HIx 3) O
    ∗ (if t = 0 then iprop(∃ fr0 fr1 : Buf (Elt F) ((V d (cV L) (jV L)).loc cc5_scratch1), gFl0 d L Tx Ix ixLitSet0 fr0 ∗ gFl1 d L Tx Ix ixLitSet1 fr1)
        else iprop(∃ fr0 fr1 : Buf (Elt F) ((V d (cV L) (jV L)).loc cc5_scratch1),
          gFl0 d L Tx Ix (ixLoopSet0 (tFin (t - 1))) fr0 ∗ gFl1 d L Tx Ix (ixLoopSet1 (tFin (t - 1))) fr1))
    ∗ (∃ frr : Buf (Elt F) ((V d (cV L) (jV L)).loc cc5_scratch1),
        (rwV).view.loc (V d (cV L) (jV L)) ↦[(Finset.univ \ (rwK0).view.set) \ (rwK1).view.set]{fullShare} frr)
    ∗ ((shV).view.loc (V d (cV L) (jV L)) ↦[Finset.univ \ (shAllK).view.set]{(shTok (jV L)).left} Tx)
    ∗ ((shV).view.loc (V d (cV L) (jV L)) ↦[Finset.univ \ (shAllK).view.set]{(shTok (jV L)).right} Tx)
    ∗ (if t = 0 then iprop(∃ fob : Buf (Elt F) ((V d (cV L) (jV L)).loc cc5_scratch2), ((obV).view.loc (V d (cV L) (jV L)) ↦{fullShare} fob)
            ∗ semVal (V d (cV L) (jV L), SemLoc.dma o0sem) 0 ∗ semVal (V d (cV L) (jV L), SemLoc.dma o1sem) 0)
        else iprop(∃ (fob : Buf (Elt F) ((V d (cV L) (jV L)).loc cc5_scratch2)) (fc0 fc1 : S10240x128.Idx → Elt F .f32) (fob0 fob1 : Buf (Elt F) ((V d (cV L) (jV L)).loc cc5_scratch2)),
            oFl0 d L (tFin (t - 1)) fc0 fob0 ∗ oFl1 d L (tFin (t - 1)) fc1 fob1
            ∗ ((obV).view.loc (V d (cV L) (jV L)) ↦[(Finset.univ \ (obK0).view.set) \ (obK1).view.set]{fullShare} fob)))
    ∗ (bigSep Finset.univ fun t' : Fin k5_t1_loop.trips => rowSt d L t t')
    ∗ ∃ W', ⌜∀ p ∈ W', p ∈ W ∨ p.2 = none⌝ ∗ owes (V d (cV L) (jV L)) O W')

end Inv

end Body
end Cert.Proof.Tile2
end
-- ==== Proof.BodyJoinC2.lean ====
/-
  Joining pieces of one buffer held at contents of their own; the slots of the row and result scratches are apart; the
  result chunks' rows as the trips' invariant states them, opened and closed; what the stage copy and the index copy leave.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC2
import proofs.«205366_g3083786518796_cont_9to1_852_38_alg».proof.Proof.BodyLemmasC2
import proofs.«205366_g3083786518796_cont_9to1_852_38_alg».proof.Proof.BodyInvC2

noncomputable section

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

section Body
variable (d : Dev nD) (L : grid5.Coords)

/-! ## Two pieces of one buffer, at contents of their own, are their union at some contents -/

theorem pts_join {ℓ : Loc nD τ sig} {q : PosShare TreeShare} {A B : Finset (Idx ℓ)} (h : Disjoint A B) (f g : Buf (Elt F) ℓ) :
    iprop((ℓ ↦[A]{q} f) ∗ (ℓ ↦[B]{q} g)) ⊢ (iprop(∃ h, ℓ ↦[A ∪ B]{q} h) : sProp 𝕄) := by
  classical
  have e1 : (ℓ ↦[A]{q} f : sProp 𝕄) = ℓ ↦[A]{q} (fun i => if i ∈ A then f i else g i) := pointsTo_congr fun i hi => by simp [hi]
  have e2 : (ℓ ↦[B]{q} g : sProp 𝕄) = ℓ ↦[B]{q} (fun i => if i ∈ A then f i else g i) := pointsTo_congr fun i hi => by
    have : i ∉ A := fun ha => (Finset.disjoint_left.mp h ha hi)
    simp [this]
  iintro ⟨HA, HB⟩
  iexists (fun i => if i ∈ A then f i else g i)
  ihave HA' := (Entails.of_eq e1) $$ HA
  ihave HB' := (Entails.of_eq e2) $$ HB
  iapply (pointsTo_split_subset (S := A ∪ B) (I := A) Finset.subset_union_left).2
  isplitl [HA']; · iexact HA'
  rw [Finset.union_sdiff_cancel_left h]; iexact HB'

/-- The two slots of the row scratch, and of the result scratch, are apart. -/
theorem set_rwK0 : (rwK0).view.set = (Rect.unit (s := S2x128x128) ![0, 0, 0] S1x128x128.size inb_S2x128x128_S1x128x128_0_0_0).set := by
  show (((rwV).view.slice (Rect.unit (s := S2x128x128) ![0, 0, 0] S1x128x128.size inb_S2x128x128_S1x128x128_0_0_0)).reshape S128x128 squeezes_S1x128x128_S128x128.numel_eq).set = _
  rw [View.set_reshape, View.set_slice_whole]
theorem set_rwK1 : (rwK1).view.set = (Rect.unit (s := S2x128x128) ![1, 0, 0] S1x128x128.size inb_S2x128x128_S1x128x128_1_0_0).set := by
  show (((rwV).view.slice (Rect.unit (s := S2x128x128) ![1, 0, 0] S1x128x128.size inb_S2x128x128_S1x128x128_1_0_0)).reshape S128x128 squeezes_S1x128x128_S128x128.numel_eq).set = _
  rw [View.set_reshape, View.set_slice_whole]
theorem set_obK0 : (obK0).view.set = (Rect.unit (s := S2x4x128) ![0, 0, 0] S1x4x128.size inb_S2x4x128_S1x4x128_0_0_0).set := by
  show (((obV).view.slice (Rect.unit (s := S2x4x128) ![0, 0, 0] S1x4x128.size inb_S2x4x128_S1x4x128_0_0_0)).reshape S4x128 squeezes_S1x4x128_S4x128.numel_eq).set = _
  rw [View.set_reshape, View.set_slice_whole]
theorem set_obK1 : (obK1).view.set = (Rect.unit (s := S2x4x128) ![1, 0, 0] S1x4x128.size inb_S2x4x128_S1x4x128_1_0_0).set := by
  show (((obV).view.slice (Rect.unit (s := S2x4x128) ![1, 0, 0] S1x4x128.size inb_S2x4x128_S1x4x128_1_0_0)).reshape S4x128 squeezes_S1x4x128_S4x128.numel_eq).set = _
  rw [View.set_reshape, View.set_slice_whole]
theorem rw_slots_disjoint : Disjoint (rwK0).view.set (rwK1).view.set := by
  rw [set_rwK0, set_rwK1]; exact Rect.unit_disjoint 0 (Or.inl (by decide))
theorem ob_slots_disjoint : Disjoint (obK0).view.set (obK1).view.set := by
  rw [set_obK0, set_obK1]; exact Rect.unit_disjoint 0 (Or.inl (by decide))

theorem sdiff_join_left {α : Type} [DecidableEq α] [Fintype α] {A B : Finset α} (h : Disjoint A B) :
    A ∪ ((Finset.univ \ A) \ B) = Finset.univ \ B := by
  ext i
  have hd : i ∈ A → i ∉ B := fun ha => Finset.disjoint_left.mp h ha
  simp only [Finset.mem_union, Finset.mem_sdiff, Finset.mem_univ, true_and]
  tauto
theorem sdiff_join_right {α : Type} [DecidableEq α] [Fintype α] {A B : Finset α} (h : Disjoint A B) :
    B ∪ ((Finset.univ \ B) \ A) = Finset.univ \ A := sdiff_join_left h.symm
theorem sdiff_join_all {α : Type} [DecidableEq α] [Fintype α] {A : Finset α} : A ∪ (Finset.univ \ A) = Finset.univ := by
  ext i; simp only [Finset.mem_union, Finset.mem_sdiff, Finset.mem_univ, true_and]; tauto

theorem sdiff_join_disj {α : Type} [DecidableEq α] [Fintype α] {A B : Finset α} (h : Disjoint A B) : Disjoint A ((Finset.univ \ A) \ B) :=
  Finset.disjoint_left.mpr fun i hi hm => (Finset.mem_sdiff.mp (Finset.mem_sdiff.mp hm).1).2 hi

theorem row_intro (t' : Fin k5_t1_loop.trips) (fo : S10240x128.Idx → Elt F .f32) :
    iprop((oLoc d ↦[oChunkSet L t' 0]{fullShare} fo) ∗ (oLoc d ↦[oChunkSet L t' 1]{fullShare} fo))
    ⊢ (iprop((∃ f, (oChunkK L t' 0).view.loc (V d (cV L) (jV L)) ↦[(oChunkK L t' 0).view.set]{fullShare} f)
      ∗ (∃ f, (oChunkK L t' 1).view.loc (V d (cV L) (jV L)) ↦[(oChunkK L t' 1).view.set]{fullShare} f)) : sProp 𝕄) := by
  iintro ⟨H0, H1⟩
  isplitl [H0]
  · iexists fo; iapply (Entails.of_eq (pts_oChunk (F := F) (U := U) d L t' 0 fo).symm); iexact H0
  · iexists fo; iapply (Entails.of_eq (pts_oChunk (F := F) (U := U) d L t' 1 fo).symm); iexact H1

theorem row_elim (t' : Fin k5_t1_loop.trips) :
    (iprop((∃ f, (oChunkK L t' 0).view.loc (V d (cV L) (jV L)) ↦[(oChunkK L t' 0).view.set]{fullShare} f)
      ∗ (∃ f, (oChunkK L t' 1).view.loc (V d (cV L) (jV L)) ↦[(oChunkK L t' 1).view.set]{fullShare} f)) : sProp 𝕄)
    ⊢ iprop((∃ f, oLoc d ↦[oChunkSet L t' 0]{fullShare} f) ∗ (∃ f, oLoc d ↦[oChunkSet L t' 1]{fullShare} f)) := by
  iintro ⟨⟨%f0, H0⟩, ⟨%f1, H1⟩⟩
  isplitl [H0]
  · iexists f0; iapply (Entails.of_eq (pts_oChunk (F := F) (U := U) d L t' 0 f0)); iexact H0
  · iexists f1; iapply (Entails.of_eq (pts_oChunk (F := F) (U := U) d L t' 1 f1)); iexact H1

/-- The result chunks, all held, as the invariant before the first trip states them. -/
theorem rows_of_chunks (fo : S10240x128.Idx → Elt F .f32) :
    (bigSep Finset.univ fun tb : Fin k5_t1_loop.trips × Fin 2 => (oLoc d ↦[oChunkSet L tb.1 tb.2]{fullShare} fo : sProp 𝕄))
    ⊢ bigSep Finset.univ fun t' : Fin k5_t1_loop.trips => rowSt (U := U) d L 0 t' := by
  rw [bigSep_univ_prod]
  refine bigSep_mono fun t' _ => ?_
  rw [bigSep_univ_two]
  unfold rowSt
  rw [if_neg (Nat.succ_ne_zero _)]
  exact row_intro (F := F) (U := U) d L t' fo

/-- Every result chunk held again, at some contents. -/
theorem chunks_of_rows (t : ℕ) (ht : ∀ t' : Fin k5_t1_loop.trips, t'.val + 1 ≠ t) :
    (bigSep Finset.univ fun t' : Fin k5_t1_loop.trips => rowSt (U := U) (F := F) d L t t')
    ⊢ bigSep Finset.univ fun tb : Fin k5_t1_loop.trips × Fin 2 => (iprop(∃ f, oLoc d ↦[oChunkSet L tb.1 tb.2]{fullShare} f) : sProp 𝕄) := by
  rw [bigSep_univ_prod]
  refine bigSep_mono fun t' _ => ?_
  rw [bigSep_univ_two]
  unfold rowSt
  rw [if_neg (ht t')]
  exact row_elim (F := F) (U := U) d L t'

/-- After the stage copy the stripe of the shared table holds the table's rows. -/
theorem stripe_fix (Tx fsh : S10000x128.Idx → Elt F .f32) :
    ((shStripeK L).view.loc (V d (cV L) (jV L)) ↦[(shStripeK L).view.set]{fullShare}
        (shStripeK L).view.writes (Elt F) fsh [⟨Rect.whole { rank := 2, size := (k5_off2 L).2 }, ReadAs.same.apply ((xStripeK L).view.read (Elt F) Tx)⟩] : sProp 𝕄)
    ⊢ shLoc d (cV L) ↦[stripe (jL L)]{fullShare} Tx := by
  rw [pointsTo_congr (stripe_copied (F := F) L Tx fsh)]
  exact Entails.of_eq (pts_shStripe (F := F) (U := U) d L _ _)

/-- After the index copy the index scratch holds row `wid`. -/
theorem idx_fix (Ix : S32x10496.Idx → Elt F .i32) (f0 : S10496.Idx → Elt F .i32) :
    ((ixV).view.loc (V d (cV L) (jV L)) ↦{fullShare} View.write (Elt F) (ixV).view f0 (ReadAs.same.apply ((iRowK L).view.read (Elt F) Ix)) Finset.univ : sProp 𝕄)
    ⊢ (ixV).view.loc (V d (cV L) (jV L)) ↦{fullShare} (iRowK L).view.read (Elt F) Ix := by
  rw [pointsTo_congr (idx_copied (F := F) L Ix f0)]

theorem stripe_numel_pos : ∀ L : grid5.Coords, 0 < (⟨2, (k5_off2 L).2⟩ : Shape).numel := by decide +kernel

theorem tFin_39 : (tFin 39).val + 1 = 40 := rfl

/-- All result chunks held again once the last trip's two copy-outs have landed. -/
theorem rows_close (fc0 fc1 : S10240x128.Idx → Elt F .f32) :
    iprop((bigSep Finset.univ fun t' : Fin k5_t1_loop.trips => rowSt (U := U) (F := F) d L 40 t')
      ∗ ((oChunkK L (tFin 39) 0).view.loc (V d (cV L) (jV L)) ↦[(oChunkK L (tFin 39) 0).view.set]{fullShare} fc0)
      ∗ ((oChunkK L (tFin 39) 1).view.loc (V d (cV L) (jV L)) ↦[(oChunkK L (tFin 39) 1).view.set]{fullShare} fc1))
    ⊢ bigSep Finset.univ fun tb : Fin k5_t1_loop.trips × Fin 2 => (iprop(∃ f, oLoc d ↦[oChunkSet L tb.1 tb.2]{fullShare} f) : sProp 𝕄) := by
  rw [bigSep_univ_prod]
  have hrest : Idealize.SL.BI.Entails
      (bigSep (Finset.univ.erase (tFin 39)) fun t' : Fin k5_t1_loop.trips => rowSt (U := U) (F := F) d L 40 t')
      (bigSep (Finset.univ.erase (tFin 39)) fun t' : Fin k5_t1_loop.trips => bigSep Finset.univ fun b : Fin 2 => (iprop(∃ f, oLoc d ↦[oChunkSet L (t', b).1 (t', b).2]{fullShare} f) : sProp 𝕄)) :=
    bigSep_mono fun t' ht' => by
      have hne : t'.val + 1 ≠ 40 := fun h => (Finset.mem_erase.mp ht').1 (Fin.ext (by show t'.val = min 39 39; omega))
      rw [bigSep_univ_two]
      unfold rowSt
      rw [if_neg hne]
      exact row_elim (F := F) (U := U) d L t'
  iintro ⟨Hrows, H0, H1⟩
  ihave Hr := (Entails.of_eq (SparseCore.bigSep_erase' (Φ := fun t' : Fin k5_t1_loop.trips => rowSt (U := U) (F := F) d L 40 t') (Finset.mem_univ (tFin 39)))) $$ Hrows
  icases Hr with ⟨-, Hrest⟩
  iapply (Entails.of_eq (SparseCore.bigSep_erase' (Φ := fun t' : Fin k5_t1_loop.trips => bigSep Finset.univ fun b : Fin 2 => (iprop(∃ f, oLoc d ↦[oChunkSet L (t', b).1 (t', b).2]{fullShare} f) : sProp 𝕄)) (Finset.mem_univ (tFin 39))).symm)
  isplitl [H0 H1]
  · rw [bigSep_univ_two]
    isplitl [H0]
    · iexists fc0; iapply (Entails.of_eq (pts_oChunk (F := F) (U := U) d L (tFin 39) 0 fc0)); iexact H0
    · iexists fc1; iapply (Entails.of_eq (pts_oChunk (F := F) (U := U) d L (tFin 39) 1 fc1)); iexact H1
  · iapply (SparseCore.ent hrest) $$ Hrest

end Body
end Cert.Proof.Tile2
end
-- ==== Proof.BodyInvVC2.lean ====
/-
  The gather-sum kernel's trips with what the buffers hold: the row scratch's slots hold the table rows their index chunks
  name, the result scratch's summed rows hold the tree sums, the chunks copied out hold their rows of the neighbour-sum array.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC2
import proofs.«205366_g3083786518796_cont_9to1_852_38_alg».proof.Proof.BodyLemmasC2
import proofs.«205366_g3083786518796_cont_9to1_852_38_alg».proof.Proof.BodyInvC2
import proofs.«205366_g3083786518796_cont_9to1_852_38_alg».proof.Proof.BodyJoinC2
import proofs.«205366_g3083786518796_cont_9to1_852_38_alg».proof.Proof.GSum
import Idealize.ShloMosaic.Lib.ValueIdx

noncomputable section

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

section Body
variable (d : Dev nD) (L : grid5.Coords)

/-! ## The forty trips' invariant, with what the buffers hold -/

open Idealize.ShloMosaic.ValueIdx (ix1 ix2 ix3)

section InvV

variable (Tx : S10000x128.Idx → Elt F .f32) (Ix : S32x10496.Idx → Elt F .i32)

/-- Entry `n` of the worker's row of the index table, as a row number of the table (reduced into range). -/
def idxAt (n : ℕ) : Fin 10000 :=
  ⟨((iRowK L).view.read (Elt F) Ix (ix1 ⟨n % 10496, Nat.mod_lt _ (by decide)⟩)).toNat % 10000, Nat.mod_lt _ (by decide)⟩

/-- Slot `b` of the row scratch holds the 128 table rows named by index chunk `n`. -/
def RowsOK (b : Fin 2) (n : ℕ) (fr : S2x128x128.Idx → Elt F .f32) : Prop :=
  ∀ (r j : Fin 128), fr (ix3 b r j) = Tx (ix2 (idxAt L Ix (128 * n + r.val)) j)

/-- The tree sum of the 32 table rows named by entries `32 m …` of the worker's index row, at lane `j`: row `m` of the
    worker's 320 result rows. -/
def rowSum [FloatOps F] (m : ℕ) (j : Fin 128) : Elt F .f32 :=
  Cert.Proof.KI.tree32 (F := F) fun kk : Fin 32 => Tx (ix2 (idxAt L Ix (32 * m + kk.val)) j)

/-- Rows `< r` of slot `b` of the result scratch hold the sums of result rows `4 n …`. -/
def SumsOK [FloatOps F] (b : Fin 2) (n : ℕ) (r : ℕ) (fob : S2x4x128.Idx → Elt F .f32) : Prop :=
  ∀ (r' : Fin 4) (j : Fin 128), r'.val < r → fob (ix3 b r' j) = rowSum L Tx Ix (4 * n + r'.val) j

/-- A result chunk holds its rows of the neighbour-sum array. -/
def ChunkOK [FloatOps F] (t : Fin k5_t1_loop.trips) (b : Fin 2) (f : S10240x128.Idx → Elt F .f32) : Prop :=
  ∀ x ∈ oChunkSet L t b, f x = Cert.Proof.KI.gsumF (F := F) Tx Ix x

/-- The two result chunks of trip `t'` when `t` trips are done: in flight (trip `t - 1`'s); copied out and holding their rows of
    the neighbour-sum array (earlier trips'); else held at some contents. -/
def rowStV [FloatOps F] (t : ℕ) (t' : Fin k5_t1_loop.trips) : sProp 𝕄 :=
  if t'.val + 1 = t then iprop(emp)
  else if t'.val < t then
    iprop((∃ f, ⌜ChunkOK L Tx Ix t' 0 f⌝ ∗ ((oChunkK L t' 0).view.loc (V d (cV L) (jV L)) ↦[(oChunkK L t' 0).view.set]{fullShare} f))
      ∗ (∃ f, ⌜ChunkOK L Tx Ix t' 1 f⌝ ∗ ((oChunkK L t' 1).view.loc (V d (cV L) (jV L)) ↦[(oChunkK L t' 1).view.set]{fullShare} f)))
  else iprop((∃ f, (oChunkK L t' 0).view.loc (V d (cV L) (jV L)) ↦[(oChunkK L t' 0).view.set]{fullShare} f)
    ∗ (∃ f, (oChunkK L t' 1).view.loc (V d (cV L) (jV L)) ↦[(oChunkK L t' 1).view.set]{fullShare} f))

/-- The trips' invariant with what the buffers hold: the row scratch's slot in flight will hold the table rows its index
    chunk names; a chunk in flight will hold its rows of the neighbour-sum array; the chunks copied out hold theirs. -/
def tripInvV [FloatOps F] (O : CellTallies nD τ sig (HIx 3)) (W : Waits sig (HIx 3)) (t : ℕ) (_ : PUnit) : sProp 𝕄 :=
  iprop(Transfers.MayWaits (V d (cV L) (jV L)) (default : HIx 3) O
    ∗ (if t = 0 then iprop(∃ fr0 fr1 : Buf (Elt F) ((V d (cV L) (jV L)).loc cc5_scratch1),
          ⌜RowsOK L Tx Ix 0 (2 * t) fr0 ∧ RowsOK L Tx Ix 1 (2 * t + 1) fr1⌝ ∗ gFl0 d L Tx Ix ixLitSet0 fr0 ∗ gFl1 d L Tx Ix ixLitSet1 fr1)
        else iprop(∃ fr0 fr1 : Buf (Elt F) ((V d (cV L) (jV L)).loc cc5_scratch1),
          ⌜RowsOK L Tx Ix 0 (2 * t) fr0 ∧ RowsOK L Tx Ix 1 (2 * t + 1) fr1⌝
          ∗ gFl0 d L Tx Ix (ixLoopSet0 (tFin (t - 1))) fr0 ∗ gFl1 d L Tx Ix (ixLoopSet1 (tFin (t - 1))) fr1))
    ∗ (∃ frr : Buf (Elt F) ((V d (cV L) (jV L)).loc cc5_scratch1),
        (rwV).view.loc (V d (cV L) (jV L)) ↦[(Finset.univ \ (rwK0).view.set) \ (rwK1).view.set]{fullShare} frr)
    ∗ ((shV).view.loc (V d (cV L) (jV L)) ↦[Finset.univ \ (shAllK).view.set]{(shTok (jV L)).left} Tx)
    ∗ ((shV).view.loc (V d (cV L) (jV L)) ↦[Finset.univ \ (shAllK).view.set]{(shTok (jV L)).right} Tx)
    ∗ (if t = 0 then iprop(∃ fob : Buf (Elt F) ((V d (cV L) (jV L)).loc cc5_scratch2), ((obV).view.loc (V d (cV L) (jV L)) ↦{fullShare} fob)
            ∗ semVal (V d (cV L) (jV L), SemLoc.dma o0sem) 0 ∗ semVal (V d (cV L) (jV L), SemLoc.dma o1sem) 0)
        else iprop(∃ (fob : Buf (Elt F) ((V d (cV L) (jV L)).loc cc5_scratch2)) (fc0 fc1 : S10240x128.Idx → Elt F .f32) (fob0 fob1 : Buf (Elt F) ((V d (cV L) (jV L)).loc cc5_scratch2)),
            ⌜ChunkOK L Tx Ix (tFin (t - 1)) 0 fc0 ∧ ChunkOK L Tx Ix (tFin (t - 1)) 1 fc1⌝
            ∗ oFl0 d L (tFin (t - 1)) fc0 fob0 ∗ oFl1 d L (tFin (t - 1)) fc1 fob1
            ∗ ((obV).view.loc (V d (cV L) (jV L)) ↦[(Finset.univ \ (obK0).view.set) \ (obK1).view.set]{fullShare} fob)))
    ∗ (bigSep Finset.univ fun t' : Fin k5_t1_loop.trips => rowStV d L Tx Ix t t')
    ∗ ∃ W', ⌜∀ p ∈ W', p ∈ W ∨ p.2 = none⌝ ∗ owes (V d (cV L) (jV L)) O W')

/-- The inner loops' invariants: the slot's rows already summed hold their sums. `S` is what of the result scratch is held. -/
def innerInv0 [FloatOps F] (S : Finset S2x4x128.Idx) (n : ℕ) (h : Buf (Elt F) ((V d (cV L) (jV L)).loc cc5_scratch1)) (r : ℕ) (_ : PUnit) : sProp 𝕄 :=
  iprop(∃ fob' : Buf (Elt F) ((V d (cV L) (jV L)).loc cc5_scratch2), ⌜SumsOK L Tx Ix 0 n r fob'⌝
    ∗ ((rwV).view.loc (V d (cV L) (jV L)) ↦[Finset.univ \ (rwK1).view.set]{fullShare} h)
    ∗ ((obV).view.loc (V d (cV L) (jV L)) ↦[S]{fullShare} fob'))
def innerInv1 [FloatOps F] (n : ℕ) (h : Buf (Elt F) ((V d (cV L) (jV L)).loc cc5_scratch1)) (r : ℕ) (_ : PUnit) : sProp 𝕄 :=
  iprop(∃ fob' : Buf (Elt F) ((V d (cV L) (jV L)).loc cc5_scratch2), ⌜SumsOK L Tx Ix 1 n r fob'⌝
    ∗ ((rwV).view.loc (V d (cV L) (jV L)) ↦[Finset.univ \ (rwK0).view.set]{fullShare} h)
    ∗ ((obV).view.loc (V d (cV L) (jV L)) ↦[Finset.univ \ (obK0).view.set]{fullShare} fob'))

end InvV

end Body
end Cert.Proof.Tile2
end
-- ==== Proof.BodyTripC2.lean ====
/-
  One trip of the gather-sum kernel's forty on a vector subcore, from the trips' invariant to itself one trip on: for each
  of the two slots, its gather waited for (and, past the first trip, its previous copy-out), the slot's four rows summed
  (a loop of four, each the tree sum of 32 rows, 16 lanes at a time), the sums copied out to the trip's chunk, the slot's
  next gather started.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC2
import proofs.«205366_g3083786518796_cont_9to1_852_38_alg».proof.Proof.BodyLemmasC2
import proofs.«205366_g3083786518796_cont_9to1_852_38_alg».proof.Proof.BodyInvC2
import proofs.«205366_g3083786518796_cont_9to1_852_38_alg».proof.Proof.BodyJoinC2

noncomputable section

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

section Body
variable (d : Dev nD) (L : grid5.Coords)

theorem rowSt_ne {t : ℕ} {t' : Fin k5_t1_loop.trips} (h : t'.val + 1 ≠ t) :
    (rowSt (U := U) (F := F) d L t t' : sProp 𝕄)
      = iprop((∃ f, (oChunkK L t' 0).view.loc (V d (cV L) (jV L)) ↦[(oChunkK L t' 0).view.set]{fullShare} f)
        ∗ (∃ f, (oChunkK L t' 1).view.loc (V d (cV L) (jV L)) ↦[(oChunkK L t' 1).view.set]{fullShare} f)) := by
  unfold rowSt; rw [if_neg h]
theorem rowSt_eq {t : ℕ} {t' : Fin k5_t1_loop.trips} (h : t'.val + 1 = t) : (rowSt (U := U) (F := F) d L t t' : sProp 𝕄) = iprop(emp) := by
  unfold rowSt; rw [if_pos h]

theorem cond1_zero {k : Fin k5_t1_loop.trips} (hk : k.val = 0) : ¬ k5_cond1 k = 1#1 := by
  have : k = ⟨0, by decide⟩ := Fin.ext hk
  subst this; decide
theorem cond2_zero {k : Fin k5_t1_loop.trips} (hk : k.val = 0) : ¬ k5_cond2 k = 1#1 := by
  have : k = ⟨0, by decide⟩ := Fin.ext hk
  subst this; decide
theorem cond1_pos : ∀ k : Fin k5_t1_loop.trips, k.val ≠ 0 → k5_cond1 k = 1#1 := by decide
theorem cond2_pos : ∀ k : Fin k5_t1_loop.trips, k.val ≠ 0 → k5_cond2 k = 1#1 := by decide

/-- The chunk rows after the first trip: its own two chunks are in flight, the others as before. -/
theorem rows_step0 (k : Fin k5_t1_loop.trips) (hk : k.val = 0) :
    (bigSep (Finset.univ.erase k) fun t' : Fin k5_t1_loop.trips => rowSt (U := U) (F := F) d L k.val t')
    ⊢ bigSep Finset.univ fun t' : Fin k5_t1_loop.trips => rowSt (U := U) (F := F) d L (k.val + 1) t' := by
  have hrest : Idealize.SL.BI.Entails
      (bigSep (Finset.univ.erase k) fun t' : Fin k5_t1_loop.trips => rowSt (U := U) (F := F) d L k.val t')
      (bigSep (Finset.univ.erase k) fun t' : Fin k5_t1_loop.trips => rowSt (U := U) (F := F) d L (k.val + 1) t') :=
    bigSep_mono fun t' ht' => by
      have hne : t' ≠ k := (Finset.mem_erase.mp ht').1
      have h1 : t'.val + 1 ≠ k.val := by omega
      have h2 : t'.val + 1 ≠ k.val + 1 := fun h => hne (Fin.ext (by omega))
      rw [rowSt_ne (F := F) (U := U) d L h1, rowSt_ne (F := F) (U := U) d L h2]
      exact BI.Entails.refl _
  iintro H
  iapply (Entails.of_eq (SparseCore.bigSep_erase' (Φ := fun t' : Fin k5_t1_loop.trips => rowSt (U := U) (F := F) d L (k.val + 1) t') (Finset.mem_univ k)).symm)
  isplitr
  · rw [rowSt_eq (F := F) (U := U) d L rfl]; iempintro
  · iapply (SparseCore.ent hrest) $$ H

/-- The chunk rows after a later trip: its own two chunks are in flight, the previous trip's two are back. -/
theorem rows_stepS (k : Fin k5_t1_loop.trips) (hk : k.val ≠ 0)
    (fc0 : Buf (Elt F) ((oChunkK L (tFin (k.val - 1)) 0).view.loc (V d (cV L) (jV L))))
    (fc1 : Buf (Elt F) ((oChunkK L (tFin (k.val - 1)) 1).view.loc (V d (cV L) (jV L)))) :
    iprop((bigSep (Finset.univ.erase k) fun t' : Fin k5_t1_loop.trips => rowSt (U := U) (F := F) d L k.val t')
      ∗ ((oChunkK L (tFin (k.val - 1)) 0).view.loc (V d (cV L) (jV L)) ↦[(oChunkK L (tFin (k.val - 1)) 0).view.set]{fullShare} fc0)
      ∗ ((oChunkK L (tFin (k.val - 1)) 1).view.loc (V d (cV L) (jV L)) ↦[(oChunkK L (tFin (k.val - 1)) 1).view.set]{fullShare} fc1))
    ⊢ bigSep Finset.univ fun t' : Fin k5_t1_loop.trips => rowSt (U := U) (F := F) d L (k.val + 1) t' := by
  have h40 := lt_of_lt_of_eq k.isLt k5_trips_eq
  have hkm : (tFin (k.val - 1)).val + 1 = k.val := by show min (k.val - 1) 39 + 1 = k.val; omega
  have hne : tFin (k.val - 1) ≠ k := fun h => by have := congrArg Fin.val h; omega
  have hmem : tFin (k.val - 1) ∈ Finset.univ.erase k := Finset.mem_erase.mpr ⟨hne, Finset.mem_univ _⟩
  have hrest : Idealize.SL.BI.Entails
      (bigSep ((Finset.univ.erase k).erase (tFin (k.val - 1))) fun t' : Fin k5_t1_loop.trips => rowSt (U := U) (F := F) d L k.val t')
      (bigSep ((Finset.univ.erase k).erase (tFin (k.val - 1))) fun t' : Fin k5_t1_loop.trips => rowSt (U := U) (F := F) d L (k.val + 1) t') :=
    bigSep_mono fun t' ht' => by
      have h1 : t' ≠ tFin (k.val - 1) := (Finset.mem_erase.mp ht').1
      have h2 : t' ≠ k := (Finset.mem_erase.mp (Finset.mem_erase.mp ht').2).1
      have e1 : t'.val + 1 ≠ k.val := fun h => h1 (Fin.ext (by omega))
      have e2 : t'.val + 1 ≠ k.val + 1 := fun h => h2 (Fin.ext (by omega))
      rw [rowSt_ne (F := F) (U := U) d L e1, rowSt_ne (F := F) (U := U) d L e2]
      exact BI.Entails.refl _
  iintro ⟨H, H0, H1⟩
  ihave Hs := (Entails.of_eq (SparseCore.bigSep_erase' (Φ := fun t' : Fin k5_t1_loop.trips => rowSt (U := U) (F := F) d L k.val t') hmem)) $$ H
  icases Hs with ⟨-, Hrest⟩
  iapply (Entails.of_eq (SparseCore.bigSep_erase' (Φ := fun t' : Fin k5_t1_loop.trips => rowSt (U := U) (F := F) d L (k.val + 1) t') (Finset.mem_univ k)).symm)
  isplitr
  · rw [rowSt_eq (F := F) (U := U) d L rfl]; iempintro
  iapply (Entails.of_eq (SparseCore.bigSep_erase' (Φ := fun t' : Fin k5_t1_loop.trips => rowSt (U := U) (F := F) d L (k.val + 1) t') hmem).symm)
  isplitl [H0 H1]
  · rw [rowSt_ne (F := F) (U := U) d L (show (tFin (k.val - 1)).val + 1 ≠ k.val + 1 by omega)]
    isplitl [H0]; · iexists fc0; iexact H0
    iexists fc1; iexact H1
  · iapply (SparseCore.ent hrest) $$ Hrest

set_option maxHeartbeats 8000000 in
/-- The first trip: no copy-out is pending. -/
theorem trip0 (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k5_t1_loop.trips) (hk : k.val = 0) (x : PUnit) :
    tripInv (U := U) d L Tx Ix O W k.val x
      ⊢ wp frame (wpE (defs₀ (F := F)) 𝒱₀ (V d (cV L) (jV L)) none) Set.univ
          (k5_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k x)
          fun y => tripInv (U := U) d L Tx Ix O W (k.val + 1) y := by
  have hc1 := cond1_zero hk
  have hc2 := cond2_zero hk
  have hrow : (k.val + 1 ≠ k.val) := Nat.succ_ne_self _
  unfold tripInv
  rw [if_pos hk, if_pos hk]
  unfold gFl0 gFl1
  iintro ⟨#Hmw, ⟨%fr0, %fr1, ⟨FG0, Hix0⟩, ⟨FG1, Hix1⟩⟩, ⟨%frr, Hrwr⟩, Hsh0, Hsh1, ⟨%fob, Hob, Hso0, Hso1⟩, Hrows, ⟨%W', %hW', HO⟩⟩
  ihave Hr := (Entails.of_eq (SparseCore.bigSep_erase' (Φ := fun t' : Fin k5_t1_loop.trips => rowSt (U := U) (F := F) d L k.val t') (Finset.mem_univ k))) $$ Hrows
  icases Hr with ⟨Hrow, Hrest⟩
  ihave Hrow' := (Entails.of_eq (rowSt_ne (F := F) (U := U) d L hrow)) $$ Hrow
  icases Hrow' with ⟨⟨%fc0, Hoc0⟩, ⟨%fc1, Hoc1⟩⟩
  unfold k5_t1_body
  -- slot 0: its gather waited for
  sl_exec
  -- slot 0 of the row scratch, back from its gather, joined to what is held of the scratch
  ihave Hj := (pts_join (F := F) (U := U) (sdiff_join_disj rw_slots_disjoint) fr0 frr) $$ [FG0_dst Hrwr]
  · isplitl [FG0_dst]; · iexact FG0_dst
    iexact Hrwr
  icases Hj with ⟨%g1, Hrw⟩
  rw [sdiff_join_left rw_slots_disjoint]
  -- the four sums of slot 0
  sl_for (fun (_ : Nat) (_ : PUnit) => (iprop(∃ fob' : Buf (Elt F) ((V d (cV L) (jV L)).loc cc5_scratch2),
      ((rwV).view.loc (V d (cV L) (jV L)) ↦[Finset.univ \ (rwK1).view.set]{fullShare} g1)
      ∗ ((obV).view.loc (V d (cV L) (jV L)) ↦{fullShare} fob')) : sProp 𝕄)) $$ [Hrw Hob]
  case region =>
    intro k2 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobA, Hrw, Hob⟩
  -- slot 0 copied out, its next gather started; slot 1's gather waited for
  sl_exec
  -- slot 1 of the row scratch joined
  ihave Hj := (pts_join (F := F) (U := U) (sdiff_join_disj rw_slots_disjoint.symm) fr1 _) $$ [FG1_dst Hrw]
  · isplitl [FG1_dst]; · iexact FG1_dst
    iexact Hrw
  icases Hj with ⟨%g2, Hrw⟩
  rw [sdiff_join_left rw_slots_disjoint.symm]
  -- the four sums of slot 1
  sl_for (fun (_ : Nat) (_ : PUnit) => (iprop(∃ fob' : Buf (Elt F) ((V d (cV L) (jV L)).loc cc5_scratch2),
      ((rwV).view.loc (V d (cV L) (jV L)) ↦[Finset.univ \ (rwK0).view.set]{fullShare} g2)
      ∗ ((obV).view.loc (V d (cV L) (jV L)) ↦[Finset.univ \ (obK0).view.set]{fullShare} fob')) : sProp 𝕄)) $$ [Hrw Hob]
  case region =>
    intro k3 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobB, Hrw, Hob⟩
  -- slot 1 copied out, its next gather started
  sl_exec
  sl_step
  -- the invariant, one trip on
  rw [if_neg (Nat.succ_ne_zero k.val), if_neg (Nat.succ_ne_zero k.val), Nat.add_sub_cancel, tFin_val]
  unfold oFl0 oFl1
  isplitr; · iexact Hmw
  isplitl [FG0 Hix0 FG1 Hix1]
  · iexists _; iexists _
    isplitl [FG0 Hix0]
    · isplitl [FG0]; · iexact FG0
      iexact Hix0
    · isplitl [FG1]; · iexact FG1
      iexact Hix1
  isplitl [Hrw]; · iexists _; iexact Hrw
  isplitl [Hsh0]; · iexact Hsh0
  isplitl [Hsh1]; · iexact Hsh1
  isplitl [Hso0 Hso1 Hob]
  · iexists _; iexists _; iexists _; iexists _; iexists _
    isplitl [Hso0]; · iexact Hso0
    isplitl [Hso1]; · iexact Hso1
    iexact Hob
  isplitl [Hrest]; · iapply (rows_step0 (F := F) (U := U) d L k hk); iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
/-- A later trip: the previous trip's two copy-outs are pending. -/
theorem tripS (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k5_t1_loop.trips) (hk : k.val ≠ 0) (x : PUnit) :
    tripInv (U := U) d L Tx Ix O W k.val x
      ⊢ wp frame (wpE (defs₀ (F := F)) 𝒱₀ (V d (cV L) (jV L)) none) Set.univ
          (k5_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k x)
          fun y => tripInv (U := U) d L Tx Ix O W (k.val + 1) y := by
  have hc1 := cond1_pos k hk
  have hc2 := cond2_pos k hk
  have hrow : (k.val + 1 ≠ k.val) := Nat.succ_ne_self _
  unfold tripInv
  rw [if_neg hk, if_neg hk]
  unfold gFl0 gFl1 oFl0 oFl1
  iintro ⟨#Hmw, ⟨%fr0, %fr1, ⟨FG0, Hix0⟩, ⟨FG1, Hix1⟩⟩, ⟨%frr, Hrwr⟩, Hsh0, Hsh1, ⟨%fob, %fc0p, %fc1p, %fob0, %fob1, FO0, FO1, Hobr⟩, Hrows, ⟨%W', %hW', HO⟩⟩
  ihave Hr := (Entails.of_eq (SparseCore.bigSep_erase' (Φ := fun t' : Fin k5_t1_loop.trips => rowSt (U := U) (F := F) d L k.val t') (Finset.mem_univ k))) $$ Hrows
  icases Hr with ⟨Hrow, Hrest⟩
  ihave Hrow' := (Entails.of_eq (rowSt_ne (F := F) (U := U) d L hrow)) $$ Hrow
  icases Hrow' with ⟨⟨%fc0, Hoc0⟩, ⟨%fc1, Hoc1⟩⟩
  unfold k5_t1_body
  -- slot 0: its gather waited for
  sl_exec
  -- slot 0 of the row scratch, back from its gather, joined to what is held of the scratch
  ihave Hj := (pts_join (F := F) (U := U) (sdiff_join_disj rw_slots_disjoint) fr0 frr) $$ [FG0_dst Hrwr]
  · isplitl [FG0_dst]; · iexact FG0_dst
    iexact Hrwr
  icases Hj with ⟨%g1, Hrw⟩
  rw [sdiff_join_left rw_slots_disjoint]
  -- slot 0 of the result scratch, back from its copy-out, joined to what is held of the scratch
  ihave Hjo := (pts_join (F := F) (U := U) (sdiff_join_disj ob_slots_disjoint) fob0 fob) $$ [FO0_src Hobr]
  · isplitl [FO0_src]; · iexact FO0_src
    iexact Hobr
  icases Hjo with ⟨%go1, Hob⟩
  rw [sdiff_join_left ob_slots_disjoint]
  -- the four sums of slot 0
  sl_for (fun (_ : Nat) (_ : PUnit) => (iprop(∃ fob' : Buf (Elt F) ((V d (cV L) (jV L)).loc cc5_scratch2),
      ((rwV).view.loc (V d (cV L) (jV L)) ↦[Finset.univ \ (rwK1).view.set]{fullShare} g1)
      ∗ ((obV).view.loc (V d (cV L) (jV L)) ↦[Finset.univ \ (obK1).view.set]{fullShare} fob')) : sProp 𝕄)) $$ [Hrw Hob]
  case region =>
    intro k2 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobA, Hrw, Hob⟩
  -- slot 0 copied out, its next gather started; slot 1's gather waited for
  sl_exec
  -- slot 1 of the row scratch joined
  ihave Hj := (pts_join (F := F) (U := U) (sdiff_join_disj rw_slots_disjoint.symm) fr1 _) $$ [FG1_dst Hrw]
  · isplitl [FG1_dst]; · iexact FG1_dst
    iexact Hrw
  icases Hj with ⟨%g2, Hrw⟩
  rw [sdiff_join_left rw_slots_disjoint.symm]
  -- slot 1 of the result scratch joined
  ihave Hjo := (pts_join (F := F) (U := U) (sdiff_join_disj ob_slots_disjoint.symm) fob1 _) $$ [FO1_src Hob]
  · isplitl [FO1_src]; · iexact FO1_src
    iexact Hob
  icases Hjo with ⟨%go2, Hob⟩
  rw [sdiff_join_left ob_slots_disjoint.symm]
  -- the four sums of slot 1
  sl_for (fun (_ : Nat) (_ : PUnit) => (iprop(∃ fob' : Buf (Elt F) ((V d (cV L) (jV L)).loc cc5_scratch2),
      ((rwV).view.loc (V d (cV L) (jV L)) ↦[Finset.univ \ (rwK0).view.set]{fullShare} g2)
      ∗ ((obV).view.loc (V d (cV L) (jV L)) ↦[Finset.univ \ (obK0).view.set]{fullShare} fob')) : sProp 𝕄)) $$ [Hrw Hob]
  case region =>
    intro k3 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobB, Hrw, Hob⟩
  -- slot 1 copied out, its next gather started
  sl_exec
  sl_step
  -- the invariant, one trip on
  rw [if_neg (Nat.succ_ne_zero k.val), if_neg (Nat.succ_ne_zero k.val), Nat.add_sub_cancel, tFin_val]
  isplitr; · iexact Hmw
  isplitl [FG0 Hix0 FG1 Hix1]
  · iexists _; iexists _
    isplitl [FG0 Hix0]
    · isplitl [FG0]; · iexact FG0
      iexact Hix0
    · isplitl [FG1]; · iexact FG1
      iexact Hix1
  isplitl [Hrw]; · iexists _; iexact Hrw
  isplitl [Hsh0]; · iexact Hsh0
  isplitl [Hsh1]; · iexact Hsh1
  isplitl [FO0 FO1 Hob]
  · iexists _; iexists _; iexists _; iexists _; iexists _
    isplitl [FO0]; · iexact FO0
    isplitl [FO1]; · iexact FO1
    iexact Hob
  isplitl [Hrest FO0_dst FO1_dst]
  · iapply (rows_stepS (F := F) (U := U) d L k hk fc0p fc1p)
    isplitl [Hrest]; · iexact Hrest
    isplitl [FO0_dst]; · iexact FO0_dst
    iexact FO1_dst
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One trip of the forty. -/
theorem trip_region (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k5_t1_loop.trips) (x : PUnit) :
    tripInv (U := U) d L Tx Ix O W k.val x
      ⊢ wp frame (wpE (defs₀ (F := F)) 𝒱₀ (V d (cV L) (jV L)) none) Set.univ
          (k5_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k x)
          fun y => tripInv (U := U) d L Tx Ix O W (k.val + 1) y := by
  by_cases hk : k.val = 0
  · exact trip0 (F := F) (U := U) d L Tx Ix hinR O W v2 k hk x
  · exact tripS (F := F) (U := U) d L Tx Ix hinR O W v2 k hk x

end Body
end Cert.Proof.Tile2
end
-- ==== Proof.BodyStepVC2.lean ====
/-
  Small steps for the valued trips: joining pieces while keeping a piece's contents, the slots' elements, the chunk rows'
  three states and their update from trip to trip.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC2
import proofs.«205366_g3083786518796_cont_9to1_852_38_alg».proof.Proof.BodyLemmasC2
import proofs.«205366_g3083786518796_cont_9to1_852_38_alg».proof.Proof.BodyInvC2
import proofs.«205366_g3083786518796_cont_9to1_852_38_alg».proof.Proof.BodyJoinC2
import proofs.«205366_g3083786518796_cont_9to1_852_38_alg».proof.Proof.GSum
import proofs.«205366_g3083786518796_cont_9to1_852_38_alg».proof.Proof.BodyInvVC2
import proofs.«205366_g3083786518796_cont_9to1_852_38_alg».proof.Proof.BodyTripC2
import Idealize.ShloMosaic.Lib.ValueIdx

noncomputable section

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

section Body
variable (d : Dev nD) (L : grid5.Coords)

open Idealize.ShloMosaic.ValueIdx (ix1 ix2 ix3)

/-- Two pieces joined, the join keeping the first piece's contents on its elements. -/
theorem pts_joinV {ℓ : Loc nD τ sig} {q : PosShare TreeShare} {A B : Finset (Idx ℓ)} (h : Disjoint A B) (f g : Buf (Elt F) ℓ) :
    iprop((ℓ ↦[A]{q} f) ∗ (ℓ ↦[B]{q} g)) ⊢ (iprop(∃ h : Buf (Elt F) ℓ, ⌜∀ i ∈ A, h i = f i⌝ ∗ (ℓ ↦[A ∪ B]{q} h)) : sProp 𝕄) := by
  classical
  have e1 : (ℓ ↦[A]{q} f : sProp 𝕄) = ℓ ↦[A]{q} (fun i => if i ∈ A then f i else g i) := pointsTo_congr fun i hi => by simp [hi]
  have e2 : (ℓ ↦[B]{q} g : sProp 𝕄) = ℓ ↦[B]{q} (fun i => if i ∈ A then f i else g i) := pointsTo_congr fun i hi => by
    have : i ∉ A := fun ha => (Finset.disjoint_left.mp h ha hi)
    simp [this]
  iintro ⟨HA, HB⟩
  iexists (fun i => if i ∈ A then f i else g i)
  isplitr
  · ipureintro; intro i hi; simp [hi]
  ihave HA' := (Entails.of_eq e1) $$ HA
  ihave HB' := (Entails.of_eq e2) $$ HB
  iapply (pointsTo_split_subset (S := A ∪ B) (I := A) Finset.subset_union_left).2
  isplitl [HA']; · iexact HA'
  rw [Finset.union_sdiff_cancel_left h]; iexact HB'

theorem mem_rwK0 (r j : Fin 128) : (ix3 (0 : Fin 2) r j : S2x128x128.Idx) ∈ (rwK0).view.set := by
  rw [set_rwK0, Rect.mem_set_unit]
  intro a
  match a with
  | 0 => exact ⟨Nat.le_refl _, by show (0 : ℕ) < 0 + 1; omega⟩
  | 1 => exact ⟨Nat.zero_le _, by simpa using r.isLt⟩
  | 2 => exact ⟨Nat.zero_le _, by simpa using j.isLt⟩
theorem mem_rwK1 (r j : Fin 128) : (ix3 (1 : Fin 2) r j : S2x128x128.Idx) ∈ (rwK1).view.set := by
  rw [set_rwK1, Rect.mem_set_unit]
  intro a
  match a with
  | 0 => exact ⟨Nat.le_refl _, by show (1 : ℕ) < 1 + 1; omega⟩
  | 1 => exact ⟨Nat.zero_le _, by simpa using r.isLt⟩
  | 2 => exact ⟨Nat.zero_le _, by simpa using j.isLt⟩

section V
variable (Tx : S10000x128.Idx → Elt F .f32) (Ix : S32x10496.Idx → Elt F .i32)

theorem RowsOK_of_eq0 {n : ℕ} {f h : S2x128x128.Idx → Elt F .f32} (hf : RowsOK L Tx Ix 0 n f) (he : ∀ i ∈ (rwK0).view.set, h i = f i) : RowsOK L Tx Ix 0 n h :=
  fun r j => (he _ (mem_rwK0 r j)).trans (hf r j)
theorem RowsOK_of_eq1 {n : ℕ} {f h : S2x128x128.Idx → Elt F .f32} (hf : RowsOK L Tx Ix 1 n f) (he : ∀ i ∈ (rwK1).view.set, h i = f i) : RowsOK L Tx Ix 1 n h :=
  fun r j => (he _ (mem_rwK1 r j)).trans (hf r j)
theorem SumsOK_zero (b : Fin 2) (n : ℕ) (fob : S2x4x128.Idx → Elt F .f32) : SumsOK L Tx Ix b n 0 fob := fun _ _ h => absurd h (Nat.not_lt_zero _)

theorem rowStV_eq {t : ℕ} {t' : Fin k5_t1_loop.trips} (h : t'.val + 1 = t) : (rowStV (U := U) (F := F) d L Tx Ix t t' : sProp 𝕄) = iprop(emp) := by
  unfold rowStV; rw [if_pos h]
theorem rowStV_done {t : ℕ} {t' : Fin k5_t1_loop.trips} (h : t'.val + 1 ≠ t) (h2 : t'.val < t) :
    (rowStV (U := U) (F := F) d L Tx Ix t t' : sProp 𝕄)
      = iprop((∃ f, ⌜ChunkOK L Tx Ix t' 0 f⌝ ∗ ((oChunkK L t' 0).view.loc (V d (cV L) (jV L)) ↦[(oChunkK L t' 0).view.set]{fullShare} f))
        ∗ (∃ f, ⌜ChunkOK L Tx Ix t' 1 f⌝ ∗ ((oChunkK L t' 1).view.loc (V d (cV L) (jV L)) ↦[(oChunkK L t' 1).view.set]{fullShare} f))) := by
  unfold rowStV; rw [if_neg h, if_pos h2]
theorem rowStV_todo {t : ℕ} {t' : Fin k5_t1_loop.trips} (h : t'.val + 1 ≠ t) (h2 : ¬ t'.val < t) :
    (rowStV (U := U) (F := F) d L Tx Ix t t' : sProp 𝕄)
      = iprop((∃ f, (oChunkK L t' 0).view.loc (V d (cV L) (jV L)) ↦[(oChunkK L t' 0).view.set]{fullShare} f)
        ∗ (∃ f, (oChunkK L t' 1).view.loc (V d (cV L) (jV L)) ↦[(oChunkK L t' 1).view.set]{fullShare} f)) := by
  unfold rowStV; rw [if_neg h, if_neg h2]

/-- The chunk rows after the first trip. -/
theorem rows_step0V (k : Fin k5_t1_loop.trips) (hk : k.val = 0) :
    (bigSep (Finset.univ.erase k) fun t' : Fin k5_t1_loop.trips => rowStV (U := U) (F := F) d L Tx Ix k.val t')
    ⊢ bigSep Finset.univ fun t' : Fin k5_t1_loop.trips => rowStV (U := U) (F := F) d L Tx Ix (k.val + 1) t' := by
  have hrest : Idealize.SL.BI.Entails
      (bigSep (Finset.univ.erase k) fun t' : Fin k5_t1_loop.trips => rowStV (U := U) (F := F) d L Tx Ix k.val t')
      (bigSep (Finset.univ.erase k) fun t' : Fin k5_t1_loop.trips => rowStV (U := U) (F := F) d L Tx Ix (k.val + 1) t') :=
    bigSep_mono fun t' ht' => by
      have hne : t' ≠ k := (Finset.mem_erase.mp ht').1
      have hv : t'.val ≠ k.val := fun h => hne (Fin.ext h)
      rw [rowStV_todo (F := F) (U := U) d L Tx Ix (show t'.val + 1 ≠ k.val by omega) (show ¬ t'.val < k.val by omega),
        rowStV_todo (F := F) (U := U) d L Tx Ix (show t'.val + 1 ≠ k.val + 1 by omega) (show ¬ t'.val < k.val + 1 by omega)]
      exact BI.Entails.refl _
  iintro H
  iapply (Entails.of_eq (SparseCore.bigSep_erase' (Φ := fun t' : Fin k5_t1_loop.trips => rowStV (U := U) (F := F) d L Tx Ix (k.val + 1) t') (Finset.mem_univ k)).symm)
  isplitr
  · rw [rowStV_eq (F := F) (U := U) d L Tx Ix rfl]; iempintro
  · iapply (SparseCore.ent hrest) $$ H

/-- The chunk rows after a later trip: the previous trip's two chunks are back, holding their sums. -/
theorem rows_stepSV (k : Fin k5_t1_loop.trips) (hk : k.val ≠ 0)
    (fc0 : Buf (Elt F) ((oChunkK L (tFin (k.val - 1)) 0).view.loc (V d (cV L) (jV L))))
    (fc1 : Buf (Elt F) ((oChunkK L (tFin (k.val - 1)) 1).view.loc (V d (cV L) (jV L))))
    (h0 : ChunkOK L Tx Ix (tFin (k.val - 1)) 0 fc0) (h1 : ChunkOK L Tx Ix (tFin (k.val - 1)) 1 fc1) :
    iprop((bigSep (Finset.univ.erase k) fun t' : Fin k5_t1_loop.trips => rowStV (U := U) (F := F) d L Tx Ix k.val t')
      ∗ ((oChunkK L (tFin (k.val - 1)) 0).view.loc (V d (cV L) (jV L)) ↦[(oChunkK L (tFin (k.val - 1)) 0).view.set]{fullShare} fc0)
      ∗ ((oChunkK L (tFin (k.val - 1)) 1).view.loc (V d (cV L) (jV L)) ↦[(oChunkK L (tFin (k.val - 1)) 1).view.set]{fullShare} fc1))
    ⊢ bigSep Finset.univ fun t' : Fin k5_t1_loop.trips => rowStV (U := U) (F := F) d L Tx Ix (k.val + 1) t' := by
  have h40 := lt_of_lt_of_eq k.isLt k5_trips_eq
  have hkm : (tFin (k.val - 1)).val + 1 = k.val := by show min (k.val - 1) 39 + 1 = k.val; omega
  have hne : tFin (k.val - 1) ≠ k := fun h => by have := congrArg Fin.val h; omega
  have hmem : tFin (k.val - 1) ∈ Finset.univ.erase k := Finset.mem_erase.mpr ⟨hne, Finset.mem_univ _⟩
  have hrest : Idealize.SL.BI.Entails
      (bigSep ((Finset.univ.erase k).erase (tFin (k.val - 1))) fun t' : Fin k5_t1_loop.trips => rowStV (U := U) (F := F) d L Tx Ix k.val t')
      (bigSep ((Finset.univ.erase k).erase (tFin (k.val - 1))) fun t' : Fin k5_t1_loop.trips => rowStV (U := U) (F := F) d L Tx Ix (k.val + 1) t') :=
    bigSep_mono fun t' ht' => by
      have h1' : t' ≠ tFin (k.val - 1) := (Finset.mem_erase.mp ht').1
      have h2' : t' ≠ k := (Finset.mem_erase.mp (Finset.mem_erase.mp ht').2).1
      have e1 : t'.val + 1 ≠ k.val := fun h => h1' (Fin.ext (by omega))
      have e2 : t'.val ≠ k.val := fun h => h2' (Fin.ext h)
      by_cases hlt : t'.val < k.val
      · rw [rowStV_done (F := F) (U := U) d L Tx Ix e1 hlt, rowStV_done (F := F) (U := U) d L Tx Ix (show t'.val + 1 ≠ k.val + 1 by omega) (show t'.val < k.val + 1 by omega)]
        exact BI.Entails.refl _
      · rw [rowStV_todo (F := F) (U := U) d L Tx Ix e1 hlt, rowStV_todo (F := F) (U := U) d L Tx Ix (show t'.val + 1 ≠ k.val + 1 by omega) (show ¬ t'.val < k.val + 1 by omega)]
        exact BI.Entails.refl _
  iintro ⟨H, H0, H1⟩
  ihave Hs := (Entails.of_eq (SparseCore.bigSep_erase' (Φ := fun t' : Fin k5_t1_loop.trips => rowStV (U := U) (F := F) d L Tx Ix k.val t') hmem)) $$ H
  icases Hs with ⟨-, Hrest⟩
  iapply (Entails.of_eq (SparseCore.bigSep_erase' (Φ := fun t' : Fin k5_t1_loop.trips => rowStV (U := U) (F := F) d L Tx Ix (k.val + 1) t') (Finset.mem_univ k)).symm)
  isplitr
  · rw [rowStV_eq (F := F) (U := U) d L Tx Ix rfl]; iempintro
  iapply (Entails.of_eq (SparseCore.bigSep_erase' (Φ := fun t' : Fin k5_t1_loop.trips => rowStV (U := U) (F := F) d L Tx Ix (k.val + 1) t') hmem).symm)
  isplitl [H0 H1]
  · rw [rowStV_done (F := F) (U := U) d L Tx Ix (show (tFin (k.val - 1)).val + 1 ≠ k.val + 1 by omega) (show (tFin (k.val - 1)).val < k.val + 1 by omega)]
    isplitl [H0]
    · iexists fc0; isplitr; · ipureintro; exact h0
      iexact H0
    · iexists fc1; isplitr; · ipureintro; exact h1
      iexact H1
  · iapply (SparseCore.ent hrest) $$ Hrest

end V

end Body
end Cert.Proof.Tile2
end
-- ==== Proof.ScTree5.lean ====
import proofs.«205366_g3083786518796_cont_9to1_852_38_alg».proof.Proof.ScTree

noncomputable section

/-!
# The third SparseCore kernel's summing payloads, read at a lane

For every payload of the kernel that adds vectors: `_lane` says the payload at lane `l` is the same pairwise sums of its
arguments' lanes.  For a store's payload (and for the last partial payload of lane group 7, which takes the sixteen
first-level sums): `_tree` says it is `tree32 w` once each argument's lane is known to be the sub-tree of `w` over the
positions that argument stands for — one load, or an earlier part's sum of 2, 4, … loads.
-/

namespace Cert.Proof.KI

open Cert.KernelIdeal Cert.KernelIdeal.Gen
open Idealize.ShloMosaic Idealize.ShloMosaic.ValueIdx

variable {F : FTy → Type} [FloatOps F]

theorem k5_pay1_lane (v114 : Vec F S1x1x16 .f32) (l : Fin 16) :
    k5_pay1 v114 (ix1 l) = v114 (ix3 (0 : Fin 1) (0 : Fin 1) l) := by
  unfold k5_pay1
  exact cast_16 v114 l

theorem k5_pay2_lane (v119 : Vec F S1x1x16 .f32) (l : Fin 16) :
    k5_pay2 v119 (ix1 l) = v119 (ix3 (0 : Fin 1) (0 : Fin 1) l) := by
  unfold k5_pay2
  exact cast_16 v119 l

theorem k5_pay3_lane (v124 : Vec F S1x1x16 .f32) (l : Fin 16) :
    k5_pay3 v124 (ix1 l) = v124 (ix3 (0 : Fin 1) (0 : Fin 1) l) := by
  unfold k5_pay3
  exact cast_16 v124 l

theorem k5_pay4_lane (v129 : Vec F S1x1x16 .f32) (l : Fin 16) :
    k5_pay4 v129 (ix1 l) = v129 (ix3 (0 : Fin 1) (0 : Fin 1) l) := by
  unfold k5_pay4
  exact cast_16 v129 l

theorem k5_pay5_lane (v134 : Vec F S1x1x16 .f32) (l : Fin 16) :
    k5_pay5 v134 (ix1 l) = v134 (ix3 (0 : Fin 1) (0 : Fin 1) l) := by
  unfold k5_pay5
  exact cast_16 v134 l

theorem k5_pay6_lane (v139 : Vec F S1x1x16 .f32) (l : Fin 16) :
    k5_pay6 v139 (ix1 l) = v139 (ix3 (0 : Fin 1) (0 : Fin 1) l) := by
  unfold k5_pay6
  exact cast_16 v139 l

theorem k5_pay7_lane (v144 : Vec F S1x1x16 .f32) (l : Fin 16) :
    k5_pay7 v144 (ix1 l) = v144 (ix3 (0 : Fin 1) (0 : Fin 1) l) := by
  unfold k5_pay7
  exact cast_16 v144 l

theorem k5_pay8_lane (v149 : Vec F S1x1x16 .f32) (l : Fin 16) :
    k5_pay8 v149 (ix1 l) = v149 (ix3 (0 : Fin 1) (0 : Fin 1) l) := by
  unfold k5_pay8
  exact cast_16 v149 l

theorem k5_pay9_lane (v154 : Vec F S1x1x16 .f32) (l : Fin 16) :
    k5_pay9 v154 (ix1 l) = v154 (ix3 (0 : Fin 1) (0 : Fin 1) l) := by
  unfold k5_pay9
  exact cast_16 v154 l

theorem k5_pay10_lane (v159 : Vec F S1x1x16 .f32) (l : Fin 16) :
    k5_pay10 v159 (ix1 l) = v159 (ix3 (0 : Fin 1) (0 : Fin 1) l) := by
  unfold k5_pay10
  exact cast_16 v159 l

theorem k5_pay11_lane (v164 : Vec F S1x1x16 .f32) (l : Fin 16) :
    k5_pay11 v164 (ix1 l) = v164 (ix3 (0 : Fin 1) (0 : Fin 1) l) := by
  unfold k5_pay11
  exact cast_16 v164 l

theorem k5_pay12_lane (v169 : Vec F S1x1x16 .f32) (l : Fin 16) :
    k5_pay12 v169 (ix1 l) = v169 (ix3 (0 : Fin 1) (0 : Fin 1) l) := by
  unfold k5_pay12
  exact cast_16 v169 l

theorem k5_pay13_lane (v174 : Vec F S1x1x16 .f32) (l : Fin 16) :
    k5_pay13 v174 (ix1 l) = v174 (ix3 (0 : Fin 1) (0 : Fin 1) l) := by
  unfold k5_pay13
  exact cast_16 v174 l

theorem k5_pay14_lane (v179 : Vec F S1x1x16 .f32) (l : Fin 16) :
    k5_pay14 v179 (ix1 l) = v179 (ix3 (0 : Fin 1) (0 : Fin 1) l) := by
  unfold k5_pay14
  exact cast_16 v179 l

theorem k5_pay15_lane (v184 : Vec F S1x1x16 .f32) (l : Fin 16) :
    k5_pay15 v184 (ix1 l) = v184 (ix3 (0 : Fin 1) (0 : Fin 1) l) := by
  unfold k5_pay15
  exact cast_16 v184 l

theorem k5_pay16_lane (v189 : Vec F S1x1x16 .f32) (l : Fin 16) :
    k5_pay16 v189 (ix1 l) = v189 (ix3 (0 : Fin 1) (0 : Fin 1) l) := by
  unfold k5_pay16
  exact cast_16 v189 l

theorem k5_pay17_lane (v194 : Vec F S1x1x16 .f32) (l : Fin 16) :
    k5_pay17 v194 (ix1 l) = v194 (ix3 (0 : Fin 1) (0 : Fin 1) l) := by
  unfold k5_pay17
  exact cast_16 v194 l

theorem k5_pay18_lane (v199 : Vec F S1x1x16 .f32) (l : Fin 16) :
    k5_pay18 v199 (ix1 l) = v199 (ix3 (0 : Fin 1) (0 : Fin 1) l) := by
  unfold k5_pay18
  exact cast_16 v199 l

theorem k5_pay19_lane (v204 : Vec F S1x1x16 .f32) (l : Fin 16) :
    k5_pay19 v204 (ix1 l) = v204 (ix3 (0 : Fin 1) (0 : Fin 1) l) := by
  unfold k5_pay19
  exact cast_16 v204 l

theorem k5_pay20_lane (v209 : Vec F S1x1x16 .f32) (l : Fin 16) :
    k5_pay20 v209 (ix1 l) = v209 (ix3 (0 : Fin 1) (0 : Fin 1) l) := by
  unfold k5_pay20
  exact cast_16 v209 l

theorem k5_pay21_lane (v214 : Vec F S1x1x16 .f32) (l : Fin 16) :
    k5_pay21 v214 (ix1 l) = v214 (ix3 (0 : Fin 1) (0 : Fin 1) l) := by
  unfold k5_pay21
  exact cast_16 v214 l

theorem k5_pay22_lane (v219 : Vec F S1x1x16 .f32) (l : Fin 16) :
    k5_pay22 v219 (ix1 l) = v219 (ix3 (0 : Fin 1) (0 : Fin 1) l) := by
  unfold k5_pay22
  exact cast_16 v219 l

theorem k5_pay23_lane (v224 : Vec F S1x1x16 .f32) (l : Fin 16) :
    k5_pay23 v224 (ix1 l) = v224 (ix3 (0 : Fin 1) (0 : Fin 1) l) := by
  unfold k5_pay23
  exact cast_16 v224 l

theorem k5_pay24_lane (v229 : Vec F S1x1x16 .f32) (l : Fin 16) :
    k5_pay24 v229 (ix1 l) = v229 (ix3 (0 : Fin 1) (0 : Fin 1) l) := by
  unfold k5_pay24
  exact cast_16 v229 l

theorem k5_pay25_lane (v234 : Vec F S1x1x16 .f32) (l : Fin 16) :
    k5_pay25 v234 (ix1 l) = v234 (ix3 (0 : Fin 1) (0 : Fin 1) l) := by
  unfold k5_pay25
  exact cast_16 v234 l

theorem k5_pay26_lane (v239 : Vec F S1x1x16 .f32) (l : Fin 16) :
    k5_pay26 v239 (ix1 l) = v239 (ix3 (0 : Fin 1) (0 : Fin 1) l) := by
  unfold k5_pay26
  exact cast_16 v239 l

theorem k5_pay27_lane (v244 : Vec F S1x1x16 .f32) (l : Fin 16) :
    k5_pay27 v244 (ix1 l) = v244 (ix3 (0 : Fin 1) (0 : Fin 1) l) := by
  unfold k5_pay27
  exact cast_16 v244 l

theorem k5_pay28_lane (v249 : Vec F S1x1x16 .f32) (l : Fin 16) :
    k5_pay28 v249 (ix1 l) = v249 (ix3 (0 : Fin 1) (0 : Fin 1) l) := by
  unfold k5_pay28
  exact cast_16 v249 l

theorem k5_pay29_lane (v254 : Vec F S1x1x16 .f32) (l : Fin 16) :
    k5_pay29 v254 (ix1 l) = v254 (ix3 (0 : Fin 1) (0 : Fin 1) l) := by
  unfold k5_pay29
  exact cast_16 v254 l

theorem k5_pay30_lane (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (l : Fin 16) :
    k5_pay30 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = FloatOps.addf (FloatOps.addf (FloatOps.addf (FloatOps.addf (FloatOps.addf (v115 (ix1 l)) (v120 (ix1 l))) (FloatOps.addf (v125 (ix1 l)) (v130 (ix1 l)))) (FloatOps.addf (FloatOps.addf (v135 (ix1 l)) (v140 (ix1 l))) (FloatOps.addf (v145 (ix1 l)) (v150 (ix1 l))))) (FloatOps.addf (FloatOps.addf (FloatOps.addf (v155 (ix1 l)) (v160 (ix1 l))) (FloatOps.addf (v165 (ix1 l)) (v170 (ix1 l)))) (FloatOps.addf (FloatOps.addf (v175 (ix1 l)) (v180 (ix1 l))) (FloatOps.addf (v185 (ix1 l)) (v190 (ix1 l)))))) (FloatOps.addf (FloatOps.addf (FloatOps.addf (FloatOps.addf (v195 (ix1 l)) (v200 (ix1 l))) (FloatOps.addf (v205 (ix1 l)) (v210 (ix1 l)))) (FloatOps.addf (FloatOps.addf (v215 (ix1 l)) (v220 (ix1 l))) (FloatOps.addf (v225 (ix1 l)) (v230 (ix1 l))))) (FloatOps.addf (FloatOps.addf (FloatOps.addf (v235 (ix1 l)) (v240 (ix1 l))) (FloatOps.addf (v245 (ix1 l)) (v250 (ix1 l)))) (FloatOps.addf (FloatOps.addf (v255 (ix1 l)) (v259 (ix3 (0 : Fin 1) (0 : Fin 1) l))) (FloatOps.addf (v264 (ix3 (0 : Fin 1) (0 : Fin 1) l)) (v269 (ix3 (0 : Fin 1) (0 : Fin 1) l)))))) := by
  unfold k5_pay30
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (cast_16 v259 l)) (congrArg₂ FloatOps.addf (cast_16 v264 l) (cast_16 v269 l)))))

theorem k5_pay30_tree (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (w : Fin 32 → F .f32) (l : Fin 16)
    (h_v115 : v115 (ix1 l) = w 0)
    (h_v120 : v120 (ix1 l) = w 1)
    (h_v125 : v125 (ix1 l) = w 2)
    (h_v130 : v130 (ix1 l) = w 3)
    (h_v135 : v135 (ix1 l) = w 4)
    (h_v140 : v140 (ix1 l) = w 5)
    (h_v145 : v145 (ix1 l) = w 6)
    (h_v150 : v150 (ix1 l) = w 7)
    (h_v155 : v155 (ix1 l) = w 8)
    (h_v160 : v160 (ix1 l) = w 9)
    (h_v165 : v165 (ix1 l) = w 10)
    (h_v170 : v170 (ix1 l) = w 11)
    (h_v175 : v175 (ix1 l) = w 12)
    (h_v180 : v180 (ix1 l) = w 13)
    (h_v185 : v185 (ix1 l) = w 14)
    (h_v190 : v190 (ix1 l) = w 15)
    (h_v195 : v195 (ix1 l) = w 16)
    (h_v200 : v200 (ix1 l) = w 17)
    (h_v205 : v205 (ix1 l) = w 18)
    (h_v210 : v210 (ix1 l) = w 19)
    (h_v215 : v215 (ix1 l) = w 20)
    (h_v220 : v220 (ix1 l) = w 21)
    (h_v225 : v225 (ix1 l) = w 22)
    (h_v230 : v230 (ix1 l) = w 23)
    (h_v235 : v235 (ix1 l) = w 24)
    (h_v240 : v240 (ix1 l) = w 25)
    (h_v245 : v245 (ix1 l) = w 26)
    (h_v250 : v250 (ix1 l) = w 27)
    (h_v255 : v255 (ix1 l) = w 28)
    (h_v259 : v259 (ix3 (0 : Fin 1) (0 : Fin 1) l) = w 29)
    (h_v264 : v264 (ix3 (0 : Fin 1) (0 : Fin 1) l) = w 30)
    (h_v269 : v269 (ix3 (0 : Fin 1) (0 : Fin 1) l) = w 31) :
    k5_pay30 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = tree32 w := by
  unfold k5_pay30
  refine (cast_116 _ l).trans ?_
  exact congrArg₂ FloatOps.addf (congrArg₂ FloatOps.addf (congrArg₂ FloatOps.addf (congrArg₂ FloatOps.addf (congrArg₂ FloatOps.addf (h_v115) (h_v120)) (congrArg₂ FloatOps.addf (h_v125) (h_v130))) (congrArg₂ FloatOps.addf (congrArg₂ FloatOps.addf (h_v135) (h_v140)) (congrArg₂ FloatOps.addf (h_v145) (h_v150)))) (congrArg₂ FloatOps.addf (congrArg₂ FloatOps.addf (congrArg₂ FloatOps.addf (h_v155) (h_v160)) (congrArg₂ FloatOps.addf (h_v165) (h_v170))) (congrArg₂ FloatOps.addf (congrArg₂ FloatOps.addf (h_v175) (h_v180)) (congrArg₂ FloatOps.addf (h_v185) (h_v190))))) (congrArg₂ FloatOps.addf (congrArg₂ FloatOps.addf (congrArg₂ FloatOps.addf (congrArg₂ FloatOps.addf (h_v195) (h_v200)) (congrArg₂ FloatOps.addf (h_v205) (h_v210))) (congrArg₂ FloatOps.addf (congrArg₂ FloatOps.addf (h_v215) (h_v220)) (congrArg₂ FloatOps.addf (h_v225) (h_v230)))) (congrArg₂ FloatOps.addf (congrArg₂ FloatOps.addf (congrArg₂ FloatOps.addf (h_v235) (h_v240)) (congrArg₂ FloatOps.addf (h_v245) (h_v250))) (congrArg₂ FloatOps.addf (congrArg₂ FloatOps.addf (h_v255) ((cast_16 v259 l).trans h_v259)) (congrArg₂ FloatOps.addf ((cast_16 v264 l).trans h_v264) ((cast_16 v269 l).trans h_v269)))))

theorem k5_pay31_lane (v310 : Vec F S1x1x16 .f32) (l : Fin 16) :
    k5_pay31 v310 (ix1 l) = v310 (ix3 (0 : Fin 1) (0 : Fin 1) l) := by
  unfold k5_pay31
  exact cast_16 v310 l

theorem k5_pay32_lane (v315 : Vec F S1x1x16 .f32) (l : Fin 16) :
    k5_pay32 v315 (ix1 l) = v315 (ix3 (0 : Fin 1) (0 : Fin 1) l) := by
  unfold k5_pay32
  exact cast_16 v315 l

theorem k5_pay33_lane (v320 : Vec F S1x1x16 .f32) (l : Fin 16) :
    k5_pay33 v320 (ix1 l) = v320 (ix3 (0 : Fin 1) (0 : Fin 1) l) := by
  unfold k5_pay33
  exact cast_16 v320 l

theorem k5_pay34_lane (v325 : Vec F S1x1x16 .f32) (l : Fin 16) :
    k5_pay34 v325 (ix1 l) = v325 (ix3 (0 : Fin 1) (0 : Fin 1) l) := by
  unfold k5_pay34
  exact cast_16 v325 l

theorem k5_pay35_lane (v330 : Vec F S1x1x16 .f32) (l : Fin 16) :
    k5_pay35 v330 (ix1 l) = v330 (ix3 (0 : Fin 1) (0 : Fin 1) l) := by
  unfold k5_pay35
  exact cast_16 v330 l

theorem k5_pay36_lane (v335 : Vec F S1x1x16 .f32) (l : Fin 16) :
    k5_pay36 v335 (ix1 l) = v335 (ix3 (0 : Fin 1) (0 : Fin 1) l) := by
  unfold k5_pay36
  exact cast_16 v335 l

theorem k5_pay37_lane (v340 : Vec F S1x1x16 .f32) (l : Fin 16) :
    k5_pay37 v340 (ix1 l) = v340 (ix3 (0 : Fin 1) (0 : Fin 1) l) := by
  unfold k5_pay37
  exact cast_16 v340 l

theorem k5_pay38_lane (v345 : Vec F S1x1x16 .f32) (l : Fin 16) :
    k5_pay38 v345 (ix1 l) = v345 (ix3 (0 : Fin 1) (0 : Fin 1) l) := by
  unfold k5_pay38
  exact cast_16 v345 l

theorem k5_pay39_lane (v350 : Vec F S1x1x16 .f32) (l : Fin 16) :
    k5_pay39 v350 (ix1 l) = v350 (ix3 (0 : Fin 1) (0 : Fin 1) l) := by
  unfold k5_pay39
  exact cast_16 v350 l

theorem k5_pay40_lane (v355 : Vec F S1x1x16 .f32) (l : Fin 16) :
    k5_pay40 v355 (ix1 l) = v355 (ix3 (0 : Fin 1) (0 : Fin 1) l) := by
  unfold k5_pay40
  exact cast_16 v355 l

theorem k5_pay41_lane (v360 : Vec F S1x1x16 .f32) (l : Fin 16) :
    k5_pay41 v360 (ix1 l) = v360 (ix3 (0 : Fin 1) (0 : Fin 1) l) := by
  unfold k5_pay41
  exact cast_16 v360 l

theorem k5_pay42_lane (v365 : Vec F S1x1x16 .f32) (l : Fin 16) :
    k5_pay42 v365 (ix1 l) = v365 (ix3 (0 : Fin 1) (0 : Fin 1) l) := by
  unfold k5_pay42
  exact cast_16 v365 l

theorem k5_pay43_lane (v370 : Vec F S1x1x16 .f32) (l : Fin 16) :
    k5_pay43 v370 (ix1 l) = v370 (ix3 (0 : Fin 1) (0 : Fin 1) l) := by
  unfold k5_pay43
  exact cast_16 v370 l

theorem k5_pay44_lane (v375 : Vec F S1x1x16 .f32) (l : Fin 16) :
    k5_pay44 v375 (ix1 l) = v375 (ix3 (0 : Fin 1) (0 : Fin 1) l) := by
  unfold k5_pay44
  exact cast_16 v375 l

theorem k5_pay45_lane (v380 : Vec F S1x1x16 .f32) (l : Fin 16) :
    k5_pay45 v380 (ix1 l) = v380 (ix3 (0 : Fin 1) (0 : Fin 1) l) := by
  unfold k5_pay45
  exact cast_16 v380 l

theorem k5_pay46_lane (v385 : Vec F S1x1x16 .f32) (l : Fin 16) :
    k5_pay46 v385 (ix1 l) = v385 (ix3 (0 : Fin 1) (0 : Fin 1) l) := by
  unfold k5_pay46
  exact cast_16 v385 l

theorem k5_pay47_lane (v390 : Vec F S1x1x16 .f32) (l : Fin 16) :
    k5_pay47 v390 (ix1 l) = v390 (ix3 (0 : Fin 1) (0 : Fin 1) l) := by
  unfold k5_pay47
  exact cast_16 v390 l

theorem k5_pay48_lane (v395 : Vec F S1x1x16 .f32) (l : Fin 16) :
    k5_pay48 v395 (ix1 l) = v395 (ix3 (0 : Fin 1) (0 : Fin 1) l) := by
  unfold k5_pay48
  exact cast_16 v395 l

theorem k5_pay49_lane (v400 : Vec F S1x1x16 .f32) (l : Fin 16) :
    k5_pay49 v400 (ix1 l) = v400 (ix3 (0 : Fin 1) (0 : Fin 1) l) := by
  unfold k5_pay49
  exact cast_16 v400 l

theorem k5_pay50_lane (v405 : Vec F S1x1x16 .f32) (l : Fin 16) :
    k5_pay50 v405 (ix1 l) = v405 (ix3 (0 : Fin 1) (0 : Fin 1) l) := by
  unfold k5_pay50
  exact cast_16 v405 l

theorem k5_pay51_lane (v410 : Vec F S1x1x16 .f32) (l : Fin 16) :
    k5_pay51 v410 (ix1 l) = v410 (ix3 (0 : Fin 1) (0 : Fin 1) l) := by
  unfold k5_pay51
  exact cast_16 v410 l

theorem k5_pay52_lane (v415 : Vec F S1x1x16 .f32) (l : Fin 16) :
    k5_pay52 v415 (ix1 l) = v415 (ix3 (0 : Fin 1) (0 : Fin 1) l) := by
  unfold k5_pay52
  exact cast_16 v415 l

theorem k5_pay53_lane (v420 : Vec F S1x1x16 .f32) (l : Fin 16) :
    k5_pay53 v420 (ix1 l) = v420 (ix3 (0 : Fin 1) (0 : Fin 1) l) := by
  unfold k5_pay53
  exact cast_16 v420 l

theorem k5_pay54_lane (v425 : Vec F S1x1x16 .f32) (l : Fin 16) :
    k5_pay54 v425 (ix1 l) = v425 (ix3 (0 : Fin 1) (0 : Fin 1) l) := by
  unfold k5_pay54
  exact cast_16 v425 l

theorem k5_pay55_lane (v430 : Vec F S1x1x16 .f32) (l : Fin 16) :
    k5_pay55 v430 (ix1 l) = v430 (ix3 (0 : Fin 1) (0 : Fin 1) l) := by
  unfold k5_pay55
  exact cast_16 v430 l

theorem k5_pay56_lane (v435 : Vec F S1x1x16 .f32) (l : Fin 16) :
    k5_pay56 v435 (ix1 l) = v435 (ix3 (0 : Fin 1) (0 : Fin 1) l) := by
  unfold k5_pay56
  exact cast_16 v435 l

theorem k5_pay57_lane (v440 : Vec F S1x1x16 .f32) (l : Fin 16) :
    k5_pay57 v440 (ix1 l) = v440 (ix3 (0 : Fin 1) (0 : Fin 1) l) := by
  unfold k5_pay57
  exact cast_16 v440 l

theorem k5_pay58_lane (v445 : Vec F S1x1x16 .f32) (l : Fin 16) :
    k5_pay58 v445 (ix1 l) = v445 (ix3 (0 : Fin 1) (0 : Fin 1) l) := by
  unfold k5_pay58
  exact cast_16 v445 l

theorem k5_pay59_lane (v450 : Vec F S1x1x16 .f32) (l : Fin 16) :
    k5_pay59 v450 (ix1 l) = v450 (ix3 (0 : Fin 1) (0 : Fin 1) l) := by
  unfold k5_pay59
  exact cast_16 v450 l

theorem k5_pay60_lane (v455 : Vec F S1x1x16 .f32) (l : Fin 16) :
    k5_pay60 v455 (ix1 l) = v455 (ix3 (0 : Fin 1) (0 : Fin 1) l) := by
  unfold k5_pay60
  exact cast_16 v455 l

theorem k5_pay61_lane (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (l : Fin 16) :
    k5_pay61 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = FloatOps.addf (FloatOps.addf (FloatOps.addf (FloatOps.addf (FloatOps.addf (v311 (ix1 l)) (v316 (ix1 l))) (FloatOps.addf (v321 (ix1 l)) (v326 (ix1 l)))) (FloatOps.addf (FloatOps.addf (v331 (ix1 l)) (v336 (ix1 l))) (FloatOps.addf (v341 (ix1 l)) (v346 (ix1 l))))) (FloatOps.addf (FloatOps.addf (FloatOps.addf (v351 (ix1 l)) (v356 (ix1 l))) (FloatOps.addf (v361 (ix1 l)) (v366 (ix1 l)))) (FloatOps.addf (FloatOps.addf (v371 (ix1 l)) (v376 (ix1 l))) (FloatOps.addf (v381 (ix1 l)) (v386 (ix1 l)))))) (FloatOps.addf (FloatOps.addf (FloatOps.addf (FloatOps.addf (v391 (ix1 l)) (v396 (ix1 l))) (FloatOps.addf (v401 (ix1 l)) (v406 (ix1 l)))) (FloatOps.addf (FloatOps.addf (v411 (ix1 l)) (v416 (ix1 l))) (FloatOps.addf (v421 (ix1 l)) (v426 (ix1 l))))) (FloatOps.addf (FloatOps.addf (FloatOps.addf (v431 (ix1 l)) (v436 (ix1 l))) (FloatOps.addf (v441 (ix1 l)) (v446 (ix1 l)))) (FloatOps.addf (FloatOps.addf (v451 (ix1 l)) (v456 (ix1 l))) (FloatOps.addf (v460 (ix3 (0 : Fin 1) (0 : Fin 1) l)) (v465 (ix3 (0 : Fin 1) (0 : Fin 1) l)))))) := by
  unfold k5_pay61
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v460 l) (cast_16 v465 l)))))

theorem k5_pay61_tree (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (w : Fin 32 → F .f32) (l : Fin 16)
    (h_v311 : v311 (ix1 l) = w 0)
    (h_v316 : v316 (ix1 l) = w 1)
    (h_v321 : v321 (ix1 l) = w 2)
    (h_v326 : v326 (ix1 l) = w 3)
    (h_v331 : v331 (ix1 l) = w 4)
    (h_v336 : v336 (ix1 l) = w 5)
    (h_v341 : v341 (ix1 l) = w 6)
    (h_v346 : v346 (ix1 l) = w 7)
    (h_v351 : v351 (ix1 l) = w 8)
    (h_v356 : v356 (ix1 l) = w 9)
    (h_v361 : v361 (ix1 l) = w 10)
    (h_v366 : v366 (ix1 l) = w 11)
    (h_v371 : v371 (ix1 l) = w 12)
    (h_v376 : v376 (ix1 l) = w 13)
    (h_v381 : v381 (ix1 l) = w 14)
    (h_v386 : v386 (ix1 l) = w 15)
    (h_v391 : v391 (ix1 l) = w 16)
    (h_v396 : v396 (ix1 l) = w 17)
    (h_v401 : v401 (ix1 l) = w 18)
    (h_v406 : v406 (ix1 l) = w 19)
    (h_v411 : v411 (ix1 l) = w 20)
    (h_v416 : v416 (ix1 l) = w 21)
    (h_v421 : v421 (ix1 l) = w 22)
    (h_v426 : v426 (ix1 l) = w 23)
    (h_v431 : v431 (ix1 l) = w 24)
    (h_v436 : v436 (ix1 l) = w 25)
    (h_v441 : v441 (ix1 l) = w 26)
    (h_v446 : v446 (ix1 l) = w 27)
    (h_v451 : v451 (ix1 l) = w 28)
    (h_v456 : v456 (ix1 l) = w 29)
    (h_v460 : v460 (ix3 (0 : Fin 1) (0 : Fin 1) l) = w 30)
    (h_v465 : v465 (ix3 (0 : Fin 1) (0 : Fin 1) l) = w 31) :
    k5_pay61 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = tree32 w := by
  unfold k5_pay61
  refine (cast_116 _ l).trans ?_
  exact congrArg₂ FloatOps.addf (congrArg₂ FloatOps.addf (congrArg₂ FloatOps.addf (congrArg₂ FloatOps.addf (congrArg₂ FloatOps.addf (h_v311) (h_v316)) (congrArg₂ FloatOps.addf (h_v321) (h_v326))) (congrArg₂ FloatOps.addf (congrArg₂ FloatOps.addf (h_v331) (h_v336)) (congrArg₂ FloatOps.addf (h_v341) (h_v346)))) (congrArg₂ FloatOps.addf (congrArg₂ FloatOps.addf (congrArg₂ FloatOps.addf (h_v351) (h_v356)) (congrArg₂ FloatOps.addf (h_v361) (h_v366))) (congrArg₂ FloatOps.addf (congrArg₂ FloatOps.addf (h_v371) (h_v376)) (congrArg₂ FloatOps.addf (h_v381) (h_v386))))) (congrArg₂ FloatOps.addf (congrArg₂ FloatOps.addf (congrArg₂ FloatOps.addf (congrArg₂ FloatOps.addf (h_v391) (h_v396)) (congrArg₂ FloatOps.addf (h_v401) (h_v406))) (congrArg₂ FloatOps.addf (congrArg₂ FloatOps.addf (h_v411) (h_v416)) (congrArg₂ FloatOps.addf (h_v421) (h_v426)))) (congrArg₂ FloatOps.addf (congrArg₂ FloatOps.addf (congrArg₂ FloatOps.addf (h_v431) (h_v436)) (congrArg₂ FloatOps.addf (h_v441) (h_v446))) (congrArg₂ FloatOps.addf (congrArg₂ FloatOps.addf (h_v451) (h_v456)) (congrArg₂ FloatOps.addf ((cast_16 v460 l).trans h_v460) ((cast_16 v465 l).trans h_v465)))))

theorem k5_pay62_lane (v506 : Vec F S1x1x16 .f32) (l : Fin 16) :
    k5_pay62 v506 (ix1 l) = v506 (ix3 (0 : Fin 1) (0 : Fin 1) l) := by
  unfold k5_pay62
  exact cast_16 v506 l

theorem k5_pay63_lane (v511 : Vec F S1x1x16 .f32) (l : Fin 16) :
    k5_pay63 v511 (ix1 l) = v511 (ix3 (0 : Fin 1) (0 : Fin 1) l) := by
  unfold k5_pay63
  exact cast_16 v511 l

theorem k5_pay64_lane (v516 : Vec F S1x1x16 .f32) (l : Fin 16) :
    k5_pay64 v516 (ix1 l) = v516 (ix3 (0 : Fin 1) (0 : Fin 1) l) := by
  unfold k5_pay64
  exact cast_16 v516 l

theorem k5_pay65_lane (v521 : Vec F S1x1x16 .f32) (l : Fin 16) :
    k5_pay65 v521 (ix1 l) = v521 (ix3 (0 : Fin 1) (0 : Fin 1) l) := by
  unfold k5_pay65
  exact cast_16 v521 l

theorem k5_pay66_lane (v526 : Vec F S1x1x16 .f32) (l : Fin 16) :
    k5_pay66 v526 (ix1 l) = v526 (ix3 (0 : Fin 1) (0 : Fin 1) l) := by
  unfold k5_pay66
  exact cast_16 v526 l

theorem k5_pay67_lane (v531 : Vec F S1x1x16 .f32) (l : Fin 16) :
    k5_pay67 v531 (ix1 l) = v531 (ix3 (0 : Fin 1) (0 : Fin 1) l) := by
  unfold k5_pay67
  exact cast_16 v531 l

theorem k5_pay68_lane (v536 : Vec F S1x1x16 .f32) (l : Fin 16) :
    k5_pay68 v536 (ix1 l) = v536 (ix3 (0 : Fin 1) (0 : Fin 1) l) := by
  unfold k5_pay68
  exact cast_16 v536 l

theorem k5_pay69_lane (v541 : Vec F S1x1x16 .f32) (l : Fin 16) :
    k5_pay69 v541 (ix1 l) = v541 (ix3 (0 : Fin 1) (0 : Fin 1) l) := by
  unfold k5_pay69
  exact cast_16 v541 l

theorem k5_pay70_lane (v546 : Vec F S1x1x16 .f32) (l : Fin 16) :
    k5_pay70 v546 (ix1 l) = v546 (ix3 (0 : Fin 1) (0 : Fin 1) l) := by
  unfold k5_pay70
  exact cast_16 v546 l

theorem k5_pay71_lane (v551 : Vec F S1x1x16 .f32) (l : Fin 16) :
    k5_pay71 v551 (ix1 l) = v551 (ix3 (0 : Fin 1) (0 : Fin 1) l) := by
  unfold k5_pay71
  exact cast_16 v551 l

theorem k5_pay72_lane (v556 : Vec F S1x1x16 .f32) (l : Fin 16) :
    k5_pay72 v556 (ix1 l) = v556 (ix3 (0 : Fin 1) (0 : Fin 1) l) := by
  unfold k5_pay72
  exact cast_16 v556 l

theorem k5_pay73_lane (v561 : Vec F S1x1x16 .f32) (l : Fin 16) :
    k5_pay73 v561 (ix1 l) = v561 (ix3 (0 : Fin 1) (0 : Fin 1) l) := by
  unfold k5_pay73
  exact cast_16 v561 l

theorem k5_pay74_lane (v566 : Vec F S1x1x16 .f32) (l : Fin 16) :
    k5_pay74 v566 (ix1 l) = v566 (ix3 (0 : Fin 1) (0 : Fin 1) l) := by
  unfold k5_pay74
  exact cast_16 v566 l

theorem k5_pay75_lane (v571 : Vec F S1x1x16 .f32) (l : Fin 16) :
    k5_pay75 v571 (ix1 l) = v571 (ix3 (0 : Fin 1) (0 : Fin 1) l) := by
  unfold k5_pay75
  exact cast_16 v571 l

theorem k5_pay76_lane (v576 : Vec F S1x1x16 .f32) (l : Fin 16) :
    k5_pay76 v576 (ix1 l) = v576 (ix3 (0 : Fin 1) (0 : Fin 1) l) := by
  unfold k5_pay76
  exact cast_16 v576 l

theorem k5_pay77_lane (v581 : Vec F S1x1x16 .f32) (l : Fin 16) :
    k5_pay77 v581 (ix1 l) = v581 (ix3 (0 : Fin 1) (0 : Fin 1) l) := by
  unfold k5_pay77
  exact cast_16 v581 l

theorem k5_pay78_lane (v586 : Vec F S1x1x16 .f32) (l : Fin 16) :
    k5_pay78 v586 (ix1 l) = v586 (ix3 (0 : Fin 1) (0 : Fin 1) l) := by
  unfold k5_pay78
  exact cast_16 v586 l

theorem k5_pay79_lane (v591 : Vec F S1x1x16 .f32) (l : Fin 16) :
    k5_pay79 v591 (ix1 l) = v591 (ix3 (0 : Fin 1) (0 : Fin 1) l) := by
  unfold k5_pay79
  exact cast_16 v591 l

theorem k5_pay80_lane (v596 : Vec F S1x1x16 .f32) (l : Fin 16) :
    k5_pay80 v596 (ix1 l) = v596 (ix3 (0 : Fin 1) (0 : Fin 1) l) := by
  unfold k5_pay80
  exact cast_16 v596 l

theorem k5_pay81_lane (v601 : Vec F S1x1x16 .f32) (l : Fin 16) :
    k5_pay81 v601 (ix1 l) = v601 (ix3 (0 : Fin 1) (0 : Fin 1) l) := by
  unfold k5_pay81
  exact cast_16 v601 l

theorem k5_pay82_lane (v606 : Vec F S1x1x16 .f32) (l : Fin 16) :
    k5_pay82 v606 (ix1 l) = v606 (ix3 (0 : Fin 1) (0 : Fin 1) l) := by
  unfold k5_pay82
  exact cast_16 v606 l

theorem k5_pay83_lane (v611 : Vec F S1x1x16 .f32) (l : Fin 16) :
    k5_pay83 v611 (ix1 l) = v611 (ix3 (0 : Fin 1) (0 : Fin 1) l) := by
  unfold k5_pay83
  exact cast_16 v611 l

theorem k5_pay84_lane (v616 : Vec F S1x1x16 .f32) (l : Fin 16) :
    k5_pay84 v616 (ix1 l) = v616 (ix3 (0 : Fin 1) (0 : Fin 1) l) := by
  unfold k5_pay84
  exact cast_16 v616 l

theorem k5_pay85_lane (v621 : Vec F S1x1x16 .f32) (l : Fin 16) :
    k5_pay85 v621 (ix1 l) = v621 (ix3 (0 : Fin 1) (0 : Fin 1) l) := by
  unfold k5_pay85
  exact cast_16 v621 l

theorem k5_pay86_lane (v626 : Vec F S1x1x16 .f32) (l : Fin 16) :
    k5_pay86 v626 (ix1 l) = v626 (ix3 (0 : Fin 1) (0 : Fin 1) l) := by
  unfold k5_pay86
  exact cast_16 v626 l

theorem k5_pay87_lane (v631 : Vec F S1x1x16 .f32) (l : Fin 16) :
    k5_pay87 v631 (ix1 l) = v631 (ix3 (0 : Fin 1) (0 : Fin 1) l) := by
  unfold k5_pay87
  exact cast_16 v631 l

theorem k5_pay88_lane (v636 : Vec F S1x1x16 .f32) (l : Fin 16) :
    k5_pay88 v636 (ix1 l) = v636 (ix3 (0 : Fin 1) (0 : Fin 1) l) := by
  unfold k5_pay88
  exact cast_16 v636 l

theorem k5_pay89_lane (v641 : Vec F S1x1x16 .f32) (l : Fin 16) :
    k5_pay89 v641 (ix1 l) = v641 (ix3 (0 : Fin 1) (0 : Fin 1) l) := by
  unfold k5_pay89
  exact cast_16 v641 l

theorem k5_pay90_lane (v646 : Vec F S1x1x16 .f32) (l : Fin 16) :
    k5_pay90 v646 (ix1 l) = v646 (ix3 (0 : Fin 1) (0 : Fin 1) l) := by
  unfold k5_pay90
  exact cast_16 v646 l

theorem k5_pay91_lane (v651 : Vec F S1x1x16 .f32) (l : Fin 16) :
    k5_pay91 v651 (ix1 l) = v651 (ix3 (0 : Fin 1) (0 : Fin 1) l) := by
  unfold k5_pay91
  exact cast_16 v651 l

theorem k5_pay92_lane (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (l : Fin 16) :
    k5_pay92 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = FloatOps.addf (FloatOps.addf (FloatOps.addf (FloatOps.addf (FloatOps.addf (v507 (ix1 l)) (v512 (ix1 l))) (FloatOps.addf (v517 (ix1 l)) (v522 (ix1 l)))) (FloatOps.addf (FloatOps.addf (v527 (ix1 l)) (v532 (ix1 l))) (FloatOps.addf (v537 (ix1 l)) (v542 (ix1 l))))) (FloatOps.addf (FloatOps.addf (FloatOps.addf (v547 (ix1 l)) (v552 (ix1 l))) (FloatOps.addf (v557 (ix1 l)) (v562 (ix1 l)))) (FloatOps.addf (FloatOps.addf (v567 (ix1 l)) (v572 (ix1 l))) (FloatOps.addf (v577 (ix1 l)) (v582 (ix1 l)))))) (FloatOps.addf (FloatOps.addf (FloatOps.addf (FloatOps.addf (v587 (ix1 l)) (v592 (ix1 l))) (FloatOps.addf (v597 (ix1 l)) (v602 (ix1 l)))) (FloatOps.addf (FloatOps.addf (v607 (ix1 l)) (v612 (ix1 l))) (FloatOps.addf (v617 (ix1 l)) (v622 (ix1 l))))) (FloatOps.addf (FloatOps.addf (FloatOps.addf (v627 (ix1 l)) (v632 (ix1 l))) (FloatOps.addf (v637 (ix1 l)) (v642 (ix1 l)))) (FloatOps.addf (FloatOps.addf (v647 (ix1 l)) (v652 (ix1 l))) (FloatOps.addf (v656 (ix3 (0 : Fin 1) (0 : Fin 1) l)) (v661 (ix3 (0 : Fin 1) (0 : Fin 1) l)))))) := by
  unfold k5_pay92
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v656 l) (cast_16 v661 l)))))

theorem k5_pay92_tree (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (w : Fin 32 → F .f32) (l : Fin 16)
    (h_v507 : v507 (ix1 l) = w 0)
    (h_v512 : v512 (ix1 l) = w 1)
    (h_v517 : v517 (ix1 l) = w 2)
    (h_v522 : v522 (ix1 l) = w 3)
    (h_v527 : v527 (ix1 l) = w 4)
    (h_v532 : v532 (ix1 l) = w 5)
    (h_v537 : v537 (ix1 l) = w 6)
    (h_v542 : v542 (ix1 l) = w 7)
    (h_v547 : v547 (ix1 l) = w 8)
    (h_v552 : v552 (ix1 l) = w 9)
    (h_v557 : v557 (ix1 l) = w 10)
    (h_v562 : v562 (ix1 l) = w 11)
    (h_v567 : v567 (ix1 l) = w 12)
    (h_v572 : v572 (ix1 l) = w 13)
    (h_v577 : v577 (ix1 l) = w 14)
    (h_v582 : v582 (ix1 l) = w 15)
    (h_v587 : v587 (ix1 l) = w 16)
    (h_v592 : v592 (ix1 l) = w 17)
    (h_v597 : v597 (ix1 l) = w 18)
    (h_v602 : v602 (ix1 l) = w 19)
    (h_v607 : v607 (ix1 l) = w 20)
    (h_v612 : v612 (ix1 l) = w 21)
    (h_v617 : v617 (ix1 l) = w 22)
    (h_v622 : v622 (ix1 l) = w 23)
    (h_v627 : v627 (ix1 l) = w 24)
    (h_v632 : v632 (ix1 l) = w 25)
    (h_v637 : v637 (ix1 l) = w 26)
    (h_v642 : v642 (ix1 l) = w 27)
    (h_v647 : v647 (ix1 l) = w 28)
    (h_v652 : v652 (ix1 l) = w 29)
    (h_v656 : v656 (ix3 (0 : Fin 1) (0 : Fin 1) l) = w 30)
    (h_v661 : v661 (ix3 (0 : Fin 1) (0 : Fin 1) l) = w 31) :
    k5_pay92 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = tree32 w := by
  unfold k5_pay92
  refine (cast_116 _ l).trans ?_
  exact congrArg₂ FloatOps.addf (congrArg₂ FloatOps.addf (congrArg₂ FloatOps.addf (congrArg₂ FloatOps.addf (congrArg₂ FloatOps.addf (h_v507) (h_v512)) (congrArg₂ FloatOps.addf (h_v517) (h_v522))) (congrArg₂ FloatOps.addf (congrArg₂ FloatOps.addf (h_v527) (h_v532)) (congrArg₂ FloatOps.addf (h_v537) (h_v542)))) (congrArg₂ FloatOps.addf (congrArg₂ FloatOps.addf (congrArg₂ FloatOps.addf (h_v547) (h_v552)) (congrArg₂ FloatOps.addf (h_v557) (h_v562))) (congrArg₂ FloatOps.addf (congrArg₂ FloatOps.addf (h_v567) (h_v572)) (congrArg₂ FloatOps.addf (h_v577) (h_v582))))) (congrArg₂ FloatOps.addf (congrArg₂ FloatOps.addf (congrArg₂ FloatOps.addf (congrArg₂ FloatOps.addf (h_v587) (h_v592)) (congrArg₂ FloatOps.addf (h_v597) (h_v602))) (congrArg₂ FloatOps.addf (congrArg₂ FloatOps.addf (h_v607) (h_v612)) (congrArg₂ FloatOps.addf (h_v617) (h_v622)))) (congrArg₂ FloatOps.addf (congrArg₂ FloatOps.addf (congrArg₂ FloatOps.addf (h_v627) (h_v632)) (congrArg₂ FloatOps.addf (h_v637) (h_v642))) (congrArg₂ FloatOps.addf (congrArg₂ FloatOps.addf (h_v647) (h_v652)) (congrArg₂ FloatOps.addf ((cast_16 v656 l).trans h_v656) ((cast_16 v661 l).trans h_v661)))))

theorem k5_pay93_lane (v702 : Vec F S1x1x16 .f32) (l : Fin 16) :
    k5_pay93 v702 (ix1 l) = v702 (ix3 (0 : Fin 1) (0 : Fin 1) l) := by
  unfold k5_pay93
  exact cast_16 v702 l

theorem k5_pay94_lane (v707 : Vec F S1x1x16 .f32) (l : Fin 16) :
    k5_pay94 v707 (ix1 l) = v707 (ix3 (0 : Fin 1) (0 : Fin 1) l) := by
  unfold k5_pay94
  exact cast_16 v707 l

theorem k5_pay95_lane (v712 : Vec F S1x1x16 .f32) (l : Fin 16) :
    k5_pay95 v712 (ix1 l) = v712 (ix3 (0 : Fin 1) (0 : Fin 1) l) := by
  unfold k5_pay95
  exact cast_16 v712 l

theorem k5_pay96_lane (v717 : Vec F S1x1x16 .f32) (l : Fin 16) :
    k5_pay96 v717 (ix1 l) = v717 (ix3 (0 : Fin 1) (0 : Fin 1) l) := by
  unfold k5_pay96
  exact cast_16 v717 l

theorem k5_pay97_lane (v722 : Vec F S1x1x16 .f32) (l : Fin 16) :
    k5_pay97 v722 (ix1 l) = v722 (ix3 (0 : Fin 1) (0 : Fin 1) l) := by
  unfold k5_pay97
  exact cast_16 v722 l

theorem k5_pay98_lane (v727 : Vec F S1x1x16 .f32) (l : Fin 16) :
    k5_pay98 v727 (ix1 l) = v727 (ix3 (0 : Fin 1) (0 : Fin 1) l) := by
  unfold k5_pay98
  exact cast_16 v727 l

theorem k5_pay99_lane (v732 : Vec F S1x1x16 .f32) (l : Fin 16) :
    k5_pay99 v732 (ix1 l) = v732 (ix3 (0 : Fin 1) (0 : Fin 1) l) := by
  unfold k5_pay99
  exact cast_16 v732 l

theorem k5_pay100_lane (v737 : Vec F S1x1x16 .f32) (l : Fin 16) :
    k5_pay100 v737 (ix1 l) = v737 (ix3 (0 : Fin 1) (0 : Fin 1) l) := by
  unfold k5_pay100
  exact cast_16 v737 l

theorem k5_pay101_lane (v742 : Vec F S1x1x16 .f32) (l : Fin 16) :
    k5_pay101 v742 (ix1 l) = v742 (ix3 (0 : Fin 1) (0 : Fin 1) l) := by
  unfold k5_pay101
  exact cast_16 v742 l

theorem k5_pay102_lane (v747 : Vec F S1x1x16 .f32) (l : Fin 16) :
    k5_pay102 v747 (ix1 l) = v747 (ix3 (0 : Fin 1) (0 : Fin 1) l) := by
  unfold k5_pay102
  exact cast_16 v747 l

theorem k5_pay103_lane (v752 : Vec F S1x1x16 .f32) (l : Fin 16) :
    k5_pay103 v752 (ix1 l) = v752 (ix3 (0 : Fin 1) (0 : Fin 1) l) := by
  unfold k5_pay103
  exact cast_16 v752 l

theorem k5_pay104_lane (v757 : Vec F S1x1x16 .f32) (l : Fin 16) :
    k5_pay104 v757 (ix1 l) = v757 (ix3 (0 : Fin 1) (0 : Fin 1) l) := by
  unfold k5_pay104
  exact cast_16 v757 l

theorem k5_pay105_lane (v762 : Vec F S1x1x16 .f32) (l : Fin 16) :
    k5_pay105 v762 (ix1 l) = v762 (ix3 (0 : Fin 1) (0 : Fin 1) l) := by
  unfold k5_pay105
  exact cast_16 v762 l

theorem k5_pay106_lane (v767 : Vec F S1x1x16 .f32) (l : Fin 16) :
    k5_pay106 v767 (ix1 l) = v767 (ix3 (0 : Fin 1) (0 : Fin 1) l) := by
  unfold k5_pay106
  exact cast_16 v767 l

theorem k5_pay107_lane (v772 : Vec F S1x1x16 .f32) (l : Fin 16) :
    k5_pay107 v772 (ix1 l) = v772 (ix3 (0 : Fin 1) (0 : Fin 1) l) := by
  unfold k5_pay107
  exact cast_16 v772 l

theorem k5_pay108_lane (v777 : Vec F S1x1x16 .f32) (l : Fin 16) :
    k5_pay108 v777 (ix1 l) = v777 (ix3 (0 : Fin 1) (0 : Fin 1) l) := by
  unfold k5_pay108
  exact cast_16 v777 l

theorem k5_pay109_lane (v782 : Vec F S1x1x16 .f32) (l : Fin 16) :
    k5_pay109 v782 (ix1 l) = v782 (ix3 (0 : Fin 1) (0 : Fin 1) l) := by
  unfold k5_pay109
  exact cast_16 v782 l

theorem k5_pay110_lane (v787 : Vec F S1x1x16 .f32) (l : Fin 16) :
    k5_pay110 v787 (ix1 l) = v787 (ix3 (0 : Fin 1) (0 : Fin 1) l) := by
  unfold k5_pay110
  exact cast_16 v787 l

theorem k5_pay111_lane (v792 : Vec F S1x1x16 .f32) (l : Fin 16) :
    k5_pay111 v792 (ix1 l) = v792 (ix3 (0 : Fin 1) (0 : Fin 1) l) := by
  unfold k5_pay111
  exact cast_16 v792 l

theorem k5_pay112_lane (v797 : Vec F S1x1x16 .f32) (l : Fin 16) :
    k5_pay112 v797 (ix1 l) = v797 (ix3 (0 : Fin 1) (0 : Fin 1) l) := by
  unfold k5_pay112
  exact cast_16 v797 l

theorem k5_pay113_lane (v802 : Vec F S1x1x16 .f32) (l : Fin 16) :
    k5_pay113 v802 (ix1 l) = v802 (ix3 (0 : Fin 1) (0 : Fin 1) l) := by
  unfold k5_pay113
  exact cast_16 v802 l

theorem k5_pay114_lane (v807 : Vec F S1x1x16 .f32) (l : Fin 16) :
    k5_pay114 v807 (ix1 l) = v807 (ix3 (0 : Fin 1) (0 : Fin 1) l) := by
  unfold k5_pay114
  exact cast_16 v807 l

theorem k5_pay115_lane (v812 : Vec F S1x1x16 .f32) (l : Fin 16) :
    k5_pay115 v812 (ix1 l) = v812 (ix3 (0 : Fin 1) (0 : Fin 1) l) := by
  unfold k5_pay115
  exact cast_16 v812 l

theorem k5_pay116_lane (v817 : Vec F S1x1x16 .f32) (l : Fin 16) :
    k5_pay116 v817 (ix1 l) = v817 (ix3 (0 : Fin 1) (0 : Fin 1) l) := by
  unfold k5_pay116
  exact cast_16 v817 l

theorem k5_pay117_lane (v822 : Vec F S1x1x16 .f32) (l : Fin 16) :
    k5_pay117 v822 (ix1 l) = v822 (ix3 (0 : Fin 1) (0 : Fin 1) l) := by
  unfold k5_pay117
  exact cast_16 v822 l

theorem k5_pay118_lane (v827 : Vec F S1x1x16 .f32) (l : Fin 16) :
    k5_pay118 v827 (ix1 l) = v827 (ix3 (0 : Fin 1) (0 : Fin 1) l) := by
  unfold k5_pay118
  exact cast_16 v827 l

theorem k5_pay119_lane (v832 : Vec F S1x1x16 .f32) (l : Fin 16) :
    k5_pay119 v832 (ix1 l) = v832 (ix3 (0 : Fin 1) (0 : Fin 1) l) := by
  unfold k5_pay119
  exact cast_16 v832 l

theorem k5_pay120_lane (v837 : Vec F S1x1x16 .f32) (l : Fin 16) :
    k5_pay120 v837 (ix1 l) = v837 (ix3 (0 : Fin 1) (0 : Fin 1) l) := by
  unfold k5_pay120
  exact cast_16 v837 l

theorem k5_pay121_lane (v842 : Vec F S1x1x16 .f32) (l : Fin 16) :
    k5_pay121 v842 (ix1 l) = v842 (ix3 (0 : Fin 1) (0 : Fin 1) l) := by
  unfold k5_pay121
  exact cast_16 v842 l

theorem k5_pay122_lane (v847 : Vec F S1x1x16 .f32) (l : Fin 16) :
    k5_pay122 v847 (ix1 l) = v847 (ix3 (0 : Fin 1) (0 : Fin 1) l) := by
  unfold k5_pay122
  exact cast_16 v847 l

theorem k5_pay123_lane (v852 : Vec F S1x1x16 .f32) (l : Fin 16) :
    k5_pay123 v852 (ix1 l) = v852 (ix3 (0 : Fin 1) (0 : Fin 1) l) := by
  unfold k5_pay123
  exact cast_16 v852 l

theorem k5_pay124_lane (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (l : Fin 16) :
    k5_pay124 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = FloatOps.addf (FloatOps.addf (FloatOps.addf (FloatOps.addf (FloatOps.addf (v703 (ix1 l)) (v708 (ix1 l))) (FloatOps.addf (v713 (ix1 l)) (v718 (ix1 l)))) (FloatOps.addf (FloatOps.addf (v723 (ix1 l)) (v728 (ix1 l))) (FloatOps.addf (v733 (ix1 l)) (v738 (ix1 l))))) (FloatOps.addf (FloatOps.addf (FloatOps.addf (v743 (ix1 l)) (v748 (ix1 l))) (FloatOps.addf (v753 (ix1 l)) (v758 (ix1 l)))) (FloatOps.addf (FloatOps.addf (v763 (ix1 l)) (v768 (ix1 l))) (FloatOps.addf (v773 (ix1 l)) (v778 (ix1 l)))))) (FloatOps.addf (FloatOps.addf (FloatOps.addf (FloatOps.addf (v783 (ix1 l)) (v788 (ix1 l))) (FloatOps.addf (v793 (ix1 l)) (v798 (ix1 l)))) (FloatOps.addf (FloatOps.addf (v803 (ix1 l)) (v808 (ix1 l))) (FloatOps.addf (v813 (ix1 l)) (v818 (ix1 l))))) (FloatOps.addf (FloatOps.addf (FloatOps.addf (v823 (ix1 l)) (v828 (ix1 l))) (FloatOps.addf (v833 (ix1 l)) (v838 (ix1 l)))) (FloatOps.addf (FloatOps.addf (v843 (ix1 l)) (v848 (ix1 l))) (FloatOps.addf (v853 (ix1 l)) (v857 (ix3 (0 : Fin 1) (0 : Fin 1) l)))))) := by
  unfold k5_pay124
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (cast_16 v857 l)))))

theorem k5_pay124_tree (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (w : Fin 32 → F .f32) (l : Fin 16)
    (h_v703 : v703 (ix1 l) = w 0)
    (h_v708 : v708 (ix1 l) = w 1)
    (h_v713 : v713 (ix1 l) = w 2)
    (h_v718 : v718 (ix1 l) = w 3)
    (h_v723 : v723 (ix1 l) = w 4)
    (h_v728 : v728 (ix1 l) = w 5)
    (h_v733 : v733 (ix1 l) = w 6)
    (h_v738 : v738 (ix1 l) = w 7)
    (h_v743 : v743 (ix1 l) = w 8)
    (h_v748 : v748 (ix1 l) = w 9)
    (h_v753 : v753 (ix1 l) = w 10)
    (h_v758 : v758 (ix1 l) = w 11)
    (h_v763 : v763 (ix1 l) = w 12)
    (h_v768 : v768 (ix1 l) = w 13)
    (h_v773 : v773 (ix1 l) = w 14)
    (h_v778 : v778 (ix1 l) = w 15)
    (h_v783 : v783 (ix1 l) = w 16)
    (h_v788 : v788 (ix1 l) = w 17)
    (h_v793 : v793 (ix1 l) = w 18)
    (h_v798 : v798 (ix1 l) = w 19)
    (h_v803 : v803 (ix1 l) = w 20)
    (h_v808 : v808 (ix1 l) = w 21)
    (h_v813 : v813 (ix1 l) = w 22)
    (h_v818 : v818 (ix1 l) = w 23)
    (h_v823 : v823 (ix1 l) = w 24)
    (h_v828 : v828 (ix1 l) = w 25)
    (h_v833 : v833 (ix1 l) = w 26)
    (h_v838 : v838 (ix1 l) = w 27)
    (h_v843 : v843 (ix1 l) = w 28)
    (h_v848 : v848 (ix1 l) = w 29)
    (h_v853 : v853 (ix1 l) = w 30)
    (h_v857 : v857 (ix3 (0 : Fin 1) (0 : Fin 1) l) = w 31) :
    k5_pay124 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = tree32 w := by
  unfold k5_pay124
  refine (cast_116 _ l).trans ?_
  exact congrArg₂ FloatOps.addf (congrArg₂ FloatOps.addf (congrArg₂ FloatOps.addf (congrArg₂ FloatOps.addf (congrArg₂ FloatOps.addf (h_v703) (h_v708)) (congrArg₂ FloatOps.addf (h_v713) (h_v718))) (congrArg₂ FloatOps.addf (congrArg₂ FloatOps.addf (h_v723) (h_v728)) (congrArg₂ FloatOps.addf (h_v733) (h_v738)))) (congrArg₂ FloatOps.addf (congrArg₂ FloatOps.addf (congrArg₂ FloatOps.addf (h_v743) (h_v748)) (congrArg₂ FloatOps.addf (h_v753) (h_v758))) (congrArg₂ FloatOps.addf (congrArg₂ FloatOps.addf (h_v763) (h_v768)) (congrArg₂ FloatOps.addf (h_v773) (h_v778))))) (congrArg₂ FloatOps.addf (congrArg₂ FloatOps.addf (congrArg₂ FloatOps.addf (congrArg₂ FloatOps.addf (h_v783) (h_v788)) (congrArg₂ FloatOps.addf (h_v793) (h_v798))) (congrArg₂ FloatOps.addf (congrArg₂ FloatOps.addf (h_v803) (h_v808)) (congrArg₂ FloatOps.addf (h_v813) (h_v818)))) (congrArg₂ FloatOps.addf (congrArg₂ FloatOps.addf (congrArg₂ FloatOps.addf (h_v823) (h_v828)) (congrArg₂ FloatOps.addf (h_v833) (h_v838))) (congrArg₂ FloatOps.addf (congrArg₂ FloatOps.addf (h_v843) (h_v848)) (congrArg₂ FloatOps.addf (h_v853) ((cast_16 v857 l).trans h_v857)))))

theorem k5_pay125_lane (v898 : Vec F S1x1x16 .f32) (l : Fin 16) :
    k5_pay125 v898 (ix1 l) = v898 (ix3 (0 : Fin 1) (0 : Fin 1) l) := by
  unfold k5_pay125
  exact cast_16 v898 l

theorem k5_pay126_lane (v903 : Vec F S1x1x16 .f32) (l : Fin 16) :
    k5_pay126 v903 (ix1 l) = v903 (ix3 (0 : Fin 1) (0 : Fin 1) l) := by
  unfold k5_pay126
  exact cast_16 v903 l

theorem k5_pay127_lane (v908 : Vec F S1x1x16 .f32) (l : Fin 16) :
    k5_pay127 v908 (ix1 l) = v908 (ix3 (0 : Fin 1) (0 : Fin 1) l) := by
  unfold k5_pay127
  exact cast_16 v908 l

theorem k5_pay128_lane (v913 : Vec F S1x1x16 .f32) (l : Fin 16) :
    k5_pay128 v913 (ix1 l) = v913 (ix3 (0 : Fin 1) (0 : Fin 1) l) := by
  unfold k5_pay128
  exact cast_16 v913 l

theorem k5_pay129_lane (v918 : Vec F S1x1x16 .f32) (l : Fin 16) :
    k5_pay129 v918 (ix1 l) = v918 (ix3 (0 : Fin 1) (0 : Fin 1) l) := by
  unfold k5_pay129
  exact cast_16 v918 l

theorem k5_pay130_lane (v923 : Vec F S1x1x16 .f32) (l : Fin 16) :
    k5_pay130 v923 (ix1 l) = v923 (ix3 (0 : Fin 1) (0 : Fin 1) l) := by
  unfold k5_pay130
  exact cast_16 v923 l

theorem k5_pay131_lane (v928 : Vec F S1x1x16 .f32) (l : Fin 16) :
    k5_pay131 v928 (ix1 l) = v928 (ix3 (0 : Fin 1) (0 : Fin 1) l) := by
  unfold k5_pay131
  exact cast_16 v928 l

theorem k5_pay132_lane (v933 : Vec F S1x1x16 .f32) (l : Fin 16) :
    k5_pay132 v933 (ix1 l) = v933 (ix3 (0 : Fin 1) (0 : Fin 1) l) := by
  unfold k5_pay132
  exact cast_16 v933 l

theorem k5_pay133_lane (v938 : Vec F S1x1x16 .f32) (l : Fin 16) :
    k5_pay133 v938 (ix1 l) = v938 (ix3 (0 : Fin 1) (0 : Fin 1) l) := by
  unfold k5_pay133
  exact cast_16 v938 l

theorem k5_pay134_lane (v943 : Vec F S1x1x16 .f32) (l : Fin 16) :
    k5_pay134 v943 (ix1 l) = v943 (ix3 (0 : Fin 1) (0 : Fin 1) l) := by
  unfold k5_pay134
  exact cast_16 v943 l

theorem k5_pay135_lane (v948 : Vec F S1x1x16 .f32) (l : Fin 16) :
    k5_pay135 v948 (ix1 l) = v948 (ix3 (0 : Fin 1) (0 : Fin 1) l) := by
  unfold k5_pay135
  exact cast_16 v948 l

theorem k5_pay136_lane (v953 : Vec F S1x1x16 .f32) (l : Fin 16) :
    k5_pay136 v953 (ix1 l) = v953 (ix3 (0 : Fin 1) (0 : Fin 1) l) := by
  unfold k5_pay136
  exact cast_16 v953 l

theorem k5_pay137_lane (v958 : Vec F S1x1x16 .f32) (l : Fin 16) :
    k5_pay137 v958 (ix1 l) = v958 (ix3 (0 : Fin 1) (0 : Fin 1) l) := by
  unfold k5_pay137
  exact cast_16 v958 l

theorem k5_pay138_lane (v963 : Vec F S1x1x16 .f32) (l : Fin 16) :
    k5_pay138 v963 (ix1 l) = v963 (ix3 (0 : Fin 1) (0 : Fin 1) l) := by
  unfold k5_pay138
  exact cast_16 v963 l

theorem k5_pay139_lane (v968 : Vec F S1x1x16 .f32) (l : Fin 16) :
    k5_pay139 v968 (ix1 l) = v968 (ix3 (0 : Fin 1) (0 : Fin 1) l) := by
  unfold k5_pay139
  exact cast_16 v968 l

theorem k5_pay140_lane (v973 : Vec F S1x1x16 .f32) (l : Fin 16) :
    k5_pay140 v973 (ix1 l) = v973 (ix3 (0 : Fin 1) (0 : Fin 1) l) := by
  unfold k5_pay140
  exact cast_16 v973 l

theorem k5_pay141_lane (v978 : Vec F S1x1x16 .f32) (l : Fin 16) :
    k5_pay141 v978 (ix1 l) = v978 (ix3 (0 : Fin 1) (0 : Fin 1) l) := by
  unfold k5_pay141
  exact cast_16 v978 l

theorem k5_pay142_lane (v983 : Vec F S1x1x16 .f32) (l : Fin 16) :
    k5_pay142 v983 (ix1 l) = v983 (ix3 (0 : Fin 1) (0 : Fin 1) l) := by
  unfold k5_pay142
  exact cast_16 v983 l

theorem k5_pay143_lane (v988 : Vec F S1x1x16 .f32) (l : Fin 16) :
    k5_pay143 v988 (ix1 l) = v988 (ix3 (0 : Fin 1) (0 : Fin 1) l) := by
  unfold k5_pay143
  exact cast_16 v988 l

theorem k5_pay144_lane (v993 : Vec F S1x1x16 .f32) (l : Fin 16) :
    k5_pay144 v993 (ix1 l) = v993 (ix3 (0 : Fin 1) (0 : Fin 1) l) := by
  unfold k5_pay144
  exact cast_16 v993 l

theorem k5_pay145_lane (v998 : Vec F S1x1x16 .f32) (l : Fin 16) :
    k5_pay145 v998 (ix1 l) = v998 (ix3 (0 : Fin 1) (0 : Fin 1) l) := by
  unfold k5_pay145
  exact cast_16 v998 l

theorem k5_pay146_lane (v1003 : Vec F S1x1x16 .f32) (l : Fin 16) :
    k5_pay146 v1003 (ix1 l) = v1003 (ix3 (0 : Fin 1) (0 : Fin 1) l) := by
  unfold k5_pay146
  exact cast_16 v1003 l

theorem k5_pay147_lane (v1008 : Vec F S1x1x16 .f32) (l : Fin 16) :
    k5_pay147 v1008 (ix1 l) = v1008 (ix3 (0 : Fin 1) (0 : Fin 1) l) := by
  unfold k5_pay147
  exact cast_16 v1008 l

theorem k5_pay148_lane (v1013 : Vec F S1x1x16 .f32) (l : Fin 16) :
    k5_pay148 v1013 (ix1 l) = v1013 (ix3 (0 : Fin 1) (0 : Fin 1) l) := by
  unfold k5_pay148
  exact cast_16 v1013 l

theorem k5_pay149_lane (v1018 : Vec F S1x1x16 .f32) (l : Fin 16) :
    k5_pay149 v1018 (ix1 l) = v1018 (ix3 (0 : Fin 1) (0 : Fin 1) l) := by
  unfold k5_pay149
  exact cast_16 v1018 l

theorem k5_pay150_lane (v1023 : Vec F S1x1x16 .f32) (l : Fin 16) :
    k5_pay150 v1023 (ix1 l) = v1023 (ix3 (0 : Fin 1) (0 : Fin 1) l) := by
  unfold k5_pay150
  exact cast_16 v1023 l

theorem k5_pay151_lane (v1028 : Vec F S1x1x16 .f32) (l : Fin 16) :
    k5_pay151 v1028 (ix1 l) = v1028 (ix3 (0 : Fin 1) (0 : Fin 1) l) := by
  unfold k5_pay151
  exact cast_16 v1028 l

theorem k5_pay152_lane (v1033 : Vec F S1x1x16 .f32) (l : Fin 16) :
    k5_pay152 v1033 (ix1 l) = v1033 (ix3 (0 : Fin 1) (0 : Fin 1) l) := by
  unfold k5_pay152
  exact cast_16 v1033 l

theorem k5_pay153_lane (v1038 : Vec F S1x1x16 .f32) (l : Fin 16) :
    k5_pay153 v1038 (ix1 l) = v1038 (ix3 (0 : Fin 1) (0 : Fin 1) l) := by
  unfold k5_pay153
  exact cast_16 v1038 l

theorem k5_pay154_lane (v1043 : Vec F S1x1x16 .f32) (l : Fin 16) :
    k5_pay154 v1043 (ix1 l) = v1043 (ix3 (0 : Fin 1) (0 : Fin 1) l) := by
  unfold k5_pay154
  exact cast_16 v1043 l

theorem k5_pay155_lane (v1048 : Vec F S1x1x16 .f32) (l : Fin 16) :
    k5_pay155 v1048 (ix1 l) = v1048 (ix3 (0 : Fin 1) (0 : Fin 1) l) := by
  unfold k5_pay155
  exact cast_16 v1048 l

theorem k5_pay156_lane (v1053 : Vec F S1x1x16 .f32) (l : Fin 16) :
    k5_pay156 v1053 (ix1 l) = v1053 (ix3 (0 : Fin 1) (0 : Fin 1) l) := by
  unfold k5_pay156
  exact cast_16 v1053 l

theorem k5_pay157_lane (v899 : FVec F S16 .f32) (v904 : FVec F S16 .f32) (l : Fin 16) :
    k5_pay157 v899 v904 (ix1 l) = FloatOps.addf (v899 (ix1 l)) (v904 (ix1 l)) := by
  unfold k5_pay157
  exact congrArg₂ FloatOps.addf (rfl) (rfl)

theorem k5_pay158_lane (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (l : Fin 16) :
    k5_pay158 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = FloatOps.addf (FloatOps.addf (FloatOps.addf (FloatOps.addf (v1055 (ix1 l)) (FloatOps.addf (v909 (ix1 l)) (v914 (ix1 l)))) (FloatOps.addf (FloatOps.addf (v919 (ix1 l)) (v924 (ix1 l))) (FloatOps.addf (v929 (ix1 l)) (v934 (ix1 l))))) (FloatOps.addf (FloatOps.addf (FloatOps.addf (v939 (ix1 l)) (v944 (ix1 l))) (FloatOps.addf (v949 (ix1 l)) (v954 (ix1 l)))) (FloatOps.addf (FloatOps.addf (v959 (ix1 l)) (v964 (ix1 l))) (FloatOps.addf (v969 (ix1 l)) (v974 (ix1 l)))))) (FloatOps.addf (FloatOps.addf (FloatOps.addf (FloatOps.addf (v979 (ix1 l)) (v984 (ix1 l))) (FloatOps.addf (v989 (ix1 l)) (v994 (ix1 l)))) (FloatOps.addf (FloatOps.addf (v999 (ix1 l)) (v1004 (ix1 l))) (FloatOps.addf (v1009 (ix1 l)) (v1014 (ix1 l))))) (FloatOps.addf (FloatOps.addf (FloatOps.addf (v1019 (ix1 l)) (v1024 (ix1 l))) (FloatOps.addf (v1029 (ix1 l)) (v1034 (ix1 l)))) (FloatOps.addf (FloatOps.addf (v1039 (ix1 l)) (v1044 (ix1 l))) (FloatOps.addf (v1049 (ix1 l)) (v1054 (ix1 l)))))) := by
  unfold k5_pay158
  refine (cast_116 _ l).trans ?_
  exact congrArg₂ FloatOps.addf (congrArg₂ FloatOps.addf (congrArg₂ FloatOps.addf (congrArg₂ FloatOps.addf (rfl) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k5_pay158_tree (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (w : Fin 32 → F .f32) (l : Fin 16)
    (h_v1055 : v1055 (ix1 l) = FloatOps.addf (w 0) (w 1))
    (h_v909 : v909 (ix1 l) = w 2)
    (h_v914 : v914 (ix1 l) = w 3)
    (h_v919 : v919 (ix1 l) = w 4)
    (h_v924 : v924 (ix1 l) = w 5)
    (h_v929 : v929 (ix1 l) = w 6)
    (h_v934 : v934 (ix1 l) = w 7)
    (h_v939 : v939 (ix1 l) = w 8)
    (h_v944 : v944 (ix1 l) = w 9)
    (h_v949 : v949 (ix1 l) = w 10)
    (h_v954 : v954 (ix1 l) = w 11)
    (h_v959 : v959 (ix1 l) = w 12)
    (h_v964 : v964 (ix1 l) = w 13)
    (h_v969 : v969 (ix1 l) = w 14)
    (h_v974 : v974 (ix1 l) = w 15)
    (h_v979 : v979 (ix1 l) = w 16)
    (h_v984 : v984 (ix1 l) = w 17)
    (h_v989 : v989 (ix1 l) = w 18)
    (h_v994 : v994 (ix1 l) = w 19)
    (h_v999 : v999 (ix1 l) = w 20)
    (h_v1004 : v1004 (ix1 l) = w 21)
    (h_v1009 : v1009 (ix1 l) = w 22)
    (h_v1014 : v1014 (ix1 l) = w 23)
    (h_v1019 : v1019 (ix1 l) = w 24)
    (h_v1024 : v1024 (ix1 l) = w 25)
    (h_v1029 : v1029 (ix1 l) = w 26)
    (h_v1034 : v1034 (ix1 l) = w 27)
    (h_v1039 : v1039 (ix1 l) = w 28)
    (h_v1044 : v1044 (ix1 l) = w 29)
    (h_v1049 : v1049 (ix1 l) = w 30)
    (h_v1054 : v1054 (ix1 l) = w 31) :
    k5_pay158 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = tree32 w := by
  unfold k5_pay158
  refine (cast_116 _ l).trans ?_
  exact congrArg₂ FloatOps.addf (congrArg₂ FloatOps.addf (congrArg₂ FloatOps.addf (congrArg₂ FloatOps.addf (h_v1055) (congrArg₂ FloatOps.addf (h_v909) (h_v914))) (congrArg₂ FloatOps.addf (congrArg₂ FloatOps.addf (h_v919) (h_v924)) (congrArg₂ FloatOps.addf (h_v929) (h_v934)))) (congrArg₂ FloatOps.addf (congrArg₂ FloatOps.addf (congrArg₂ FloatOps.addf (h_v939) (h_v944)) (congrArg₂ FloatOps.addf (h_v949) (h_v954))) (congrArg₂ FloatOps.addf (congrArg₂ FloatOps.addf (h_v959) (h_v964)) (congrArg₂ FloatOps.addf (h_v969) (h_v974))))) (congrArg₂ FloatOps.addf (congrArg₂ FloatOps.addf (congrArg₂ FloatOps.addf (congrArg₂ FloatOps.addf (h_v979) (h_v984)) (congrArg₂ FloatOps.addf (h_v989) (h_v994))) (congrArg₂ FloatOps.addf (congrArg₂ FloatOps.addf (h_v999) (h_v1004)) (congrArg₂ FloatOps.addf (h_v1009) (h_v1014)))) (congrArg₂ FloatOps.addf (congrArg₂ FloatOps.addf (congrArg₂ FloatOps.addf (h_v1019) (h_v1024)) (congrArg₂ FloatOps.addf (h_v1029) (h_v1034))) (congrArg₂ FloatOps.addf (congrArg₂ FloatOps.addf (h_v1039) (h_v1044)) (congrArg₂ FloatOps.addf (h_v1049) (h_v1054)))))

theorem k5_pay159_lane (v1094 : Vec F S1x1x16 .f32) (l : Fin 16) :
    k5_pay159 v1094 (ix1 l) = v1094 (ix3 (0 : Fin 1) (0 : Fin 1) l) := by
  unfold k5_pay159
  exact cast_16 v1094 l

theorem k5_pay160_lane (v1099 : Vec F S1x1x16 .f32) (l : Fin 16) :
    k5_pay160 v1099 (ix1 l) = v1099 (ix3 (0 : Fin 1) (0 : Fin 1) l) := by
  unfold k5_pay160
  exact cast_16 v1099 l

theorem k5_pay161_lane (v1104 : Vec F S1x1x16 .f32) (l : Fin 16) :
    k5_pay161 v1104 (ix1 l) = v1104 (ix3 (0 : Fin 1) (0 : Fin 1) l) := by
  unfold k5_pay161
  exact cast_16 v1104 l

theorem k5_pay162_lane (v1109 : Vec F S1x1x16 .f32) (l : Fin 16) :
    k5_pay162 v1109 (ix1 l) = v1109 (ix3 (0 : Fin 1) (0 : Fin 1) l) := by
  unfold k5_pay162
  exact cast_16 v1109 l

theorem k5_pay163_lane (v1114 : Vec F S1x1x16 .f32) (l : Fin 16) :
    k5_pay163 v1114 (ix1 l) = v1114 (ix3 (0 : Fin 1) (0 : Fin 1) l) := by
  unfold k5_pay163
  exact cast_16 v1114 l

theorem k5_pay164_lane (v1119 : Vec F S1x1x16 .f32) (l : Fin 16) :
    k5_pay164 v1119 (ix1 l) = v1119 (ix3 (0 : Fin 1) (0 : Fin 1) l) := by
  unfold k5_pay164
  exact cast_16 v1119 l

theorem k5_pay165_lane (v1124 : Vec F S1x1x16 .f32) (l : Fin 16) :
    k5_pay165 v1124 (ix1 l) = v1124 (ix3 (0 : Fin 1) (0 : Fin 1) l) := by
  unfold k5_pay165
  exact cast_16 v1124 l

theorem k5_pay166_lane (v1129 : Vec F S1x1x16 .f32) (l : Fin 16) :
    k5_pay166 v1129 (ix1 l) = v1129 (ix3 (0 : Fin 1) (0 : Fin 1) l) := by
  unfold k5_pay166
  exact cast_16 v1129 l

theorem k5_pay167_lane (v1134 : Vec F S1x1x16 .f32) (l : Fin 16) :
    k5_pay167 v1134 (ix1 l) = v1134 (ix3 (0 : Fin 1) (0 : Fin 1) l) := by
  unfold k5_pay167
  exact cast_16 v1134 l

theorem k5_pay168_lane (v1139 : Vec F S1x1x16 .f32) (l : Fin 16) :
    k5_pay168 v1139 (ix1 l) = v1139 (ix3 (0 : Fin 1) (0 : Fin 1) l) := by
  unfold k5_pay168
  exact cast_16 v1139 l

theorem k5_pay169_lane (v1144 : Vec F S1x1x16 .f32) (l : Fin 16) :
    k5_pay169 v1144 (ix1 l) = v1144 (ix3 (0 : Fin 1) (0 : Fin 1) l) := by
  unfold k5_pay169
  exact cast_16 v1144 l

theorem k5_pay170_lane (v1149 : Vec F S1x1x16 .f32) (l : Fin 16) :
    k5_pay170 v1149 (ix1 l) = v1149 (ix3 (0 : Fin 1) (0 : Fin 1) l) := by
  unfold k5_pay170
  exact cast_16 v1149 l

theorem k5_pay171_lane (v1154 : Vec F S1x1x16 .f32) (l : Fin 16) :
    k5_pay171 v1154 (ix1 l) = v1154 (ix3 (0 : Fin 1) (0 : Fin 1) l) := by
  unfold k5_pay171
  exact cast_16 v1154 l

theorem k5_pay172_lane (v1159 : Vec F S1x1x16 .f32) (l : Fin 16) :
    k5_pay172 v1159 (ix1 l) = v1159 (ix3 (0 : Fin 1) (0 : Fin 1) l) := by
  unfold k5_pay172
  exact cast_16 v1159 l

theorem k5_pay173_lane (v1164 : Vec F S1x1x16 .f32) (l : Fin 16) :
    k5_pay173 v1164 (ix1 l) = v1164 (ix3 (0 : Fin 1) (0 : Fin 1) l) := by
  unfold k5_pay173
  exact cast_16 v1164 l

theorem k5_pay174_lane (v1169 : Vec F S1x1x16 .f32) (l : Fin 16) :
    k5_pay174 v1169 (ix1 l) = v1169 (ix3 (0 : Fin 1) (0 : Fin 1) l) := by
  unfold k5_pay174
  exact cast_16 v1169 l

theorem k5_pay175_lane (v1174 : Vec F S1x1x16 .f32) (l : Fin 16) :
    k5_pay175 v1174 (ix1 l) = v1174 (ix3 (0 : Fin 1) (0 : Fin 1) l) := by
  unfold k5_pay175
  exact cast_16 v1174 l

theorem k5_pay176_lane (v1179 : Vec F S1x1x16 .f32) (l : Fin 16) :
    k5_pay176 v1179 (ix1 l) = v1179 (ix3 (0 : Fin 1) (0 : Fin 1) l) := by
  unfold k5_pay176
  exact cast_16 v1179 l

theorem k5_pay177_lane (v1184 : Vec F S1x1x16 .f32) (l : Fin 16) :
    k5_pay177 v1184 (ix1 l) = v1184 (ix3 (0 : Fin 1) (0 : Fin 1) l) := by
  unfold k5_pay177
  exact cast_16 v1184 l

theorem k5_pay178_lane (v1189 : Vec F S1x1x16 .f32) (l : Fin 16) :
    k5_pay178 v1189 (ix1 l) = v1189 (ix3 (0 : Fin 1) (0 : Fin 1) l) := by
  unfold k5_pay178
  exact cast_16 v1189 l

theorem k5_pay179_lane (v1194 : Vec F S1x1x16 .f32) (l : Fin 16) :
    k5_pay179 v1194 (ix1 l) = v1194 (ix3 (0 : Fin 1) (0 : Fin 1) l) := by
  unfold k5_pay179
  exact cast_16 v1194 l

theorem k5_pay180_lane (v1199 : Vec F S1x1x16 .f32) (l : Fin 16) :
    k5_pay180 v1199 (ix1 l) = v1199 (ix3 (0 : Fin 1) (0 : Fin 1) l) := by
  unfold k5_pay180
  exact cast_16 v1199 l

theorem k5_pay181_lane (v1204 : Vec F S1x1x16 .f32) (l : Fin 16) :
    k5_pay181 v1204 (ix1 l) = v1204 (ix3 (0 : Fin 1) (0 : Fin 1) l) := by
  unfold k5_pay181
  exact cast_16 v1204 l

theorem k5_pay182_lane (v1209 : Vec F S1x1x16 .f32) (l : Fin 16) :
    k5_pay182 v1209 (ix1 l) = v1209 (ix3 (0 : Fin 1) (0 : Fin 1) l) := by
  unfold k5_pay182
  exact cast_16 v1209 l

theorem k5_pay183_lane (v1214 : Vec F S1x1x16 .f32) (l : Fin 16) :
    k5_pay183 v1214 (ix1 l) = v1214 (ix3 (0 : Fin 1) (0 : Fin 1) l) := by
  unfold k5_pay183
  exact cast_16 v1214 l

theorem k5_pay184_lane (v1219 : Vec F S1x1x16 .f32) (l : Fin 16) :
    k5_pay184 v1219 (ix1 l) = v1219 (ix3 (0 : Fin 1) (0 : Fin 1) l) := by
  unfold k5_pay184
  exact cast_16 v1219 l

theorem k5_pay185_lane (v1224 : Vec F S1x1x16 .f32) (l : Fin 16) :
    k5_pay185 v1224 (ix1 l) = v1224 (ix3 (0 : Fin 1) (0 : Fin 1) l) := by
  unfold k5_pay185
  exact cast_16 v1224 l

theorem k5_pay186_lane (v1229 : Vec F S1x1x16 .f32) (l : Fin 16) :
    k5_pay186 v1229 (ix1 l) = v1229 (ix3 (0 : Fin 1) (0 : Fin 1) l) := by
  unfold k5_pay186
  exact cast_16 v1229 l

theorem k5_pay187_lane (v1234 : Vec F S1x1x16 .f32) (l : Fin 16) :
    k5_pay187 v1234 (ix1 l) = v1234 (ix3 (0 : Fin 1) (0 : Fin 1) l) := by
  unfold k5_pay187
  exact cast_16 v1234 l

theorem k5_pay188_lane (v1239 : Vec F S1x1x16 .f32) (l : Fin 16) :
    k5_pay188 v1239 (ix1 l) = v1239 (ix3 (0 : Fin 1) (0 : Fin 1) l) := by
  unfold k5_pay188
  exact cast_16 v1239 l

theorem k5_pay189_lane (v1244 : Vec F S1x1x16 .f32) (l : Fin 16) :
    k5_pay189 v1244 (ix1 l) = v1244 (ix3 (0 : Fin 1) (0 : Fin 1) l) := by
  unfold k5_pay189
  exact cast_16 v1244 l

theorem k5_pay190_lane (v1249 : Vec F S1x1x16 .f32) (l : Fin 16) :
    k5_pay190 v1249 (ix1 l) = v1249 (ix3 (0 : Fin 1) (0 : Fin 1) l) := by
  unfold k5_pay190
  exact cast_16 v1249 l

theorem k5_pay191_lane (v1095 : FVec F S16 .f32) (v1100 : FVec F S16 .f32) (l : Fin 16) :
    k5_pay191 v1095 v1100 (ix1 l) = FloatOps.addf (v1095 (ix1 l)) (v1100 (ix1 l)) := by
  unfold k5_pay191
  exact congrArg₂ FloatOps.addf (rfl) (rfl)

theorem k5_pay192_lane (v1105 : FVec F S16 .f32) (v1110 : FVec F S16 .f32) (l : Fin 16) :
    k5_pay192 v1105 v1110 (ix1 l) = FloatOps.addf (v1105 (ix1 l)) (v1110 (ix1 l)) := by
  unfold k5_pay192
  exact congrArg₂ FloatOps.addf (rfl) (rfl)

theorem k5_pay193_lane (v1115 : FVec F S16 .f32) (v1120 : FVec F S16 .f32) (l : Fin 16) :
    k5_pay193 v1115 v1120 (ix1 l) = FloatOps.addf (v1115 (ix1 l)) (v1120 (ix1 l)) := by
  unfold k5_pay193
  exact congrArg₂ FloatOps.addf (rfl) (rfl)

theorem k5_pay194_lane (v1125 : FVec F S16 .f32) (v1130 : FVec F S16 .f32) (l : Fin 16) :
    k5_pay194 v1125 v1130 (ix1 l) = FloatOps.addf (v1125 (ix1 l)) (v1130 (ix1 l)) := by
  unfold k5_pay194
  exact congrArg₂ FloatOps.addf (rfl) (rfl)

theorem k5_pay195_lane (v1135 : FVec F S16 .f32) (v1140 : FVec F S16 .f32) (l : Fin 16) :
    k5_pay195 v1135 v1140 (ix1 l) = FloatOps.addf (v1135 (ix1 l)) (v1140 (ix1 l)) := by
  unfold k5_pay195
  exact congrArg₂ FloatOps.addf (rfl) (rfl)

theorem k5_pay196_lane (v1145 : FVec F S16 .f32) (v1150 : FVec F S16 .f32) (l : Fin 16) :
    k5_pay196 v1145 v1150 (ix1 l) = FloatOps.addf (v1145 (ix1 l)) (v1150 (ix1 l)) := by
  unfold k5_pay196
  exact congrArg₂ FloatOps.addf (rfl) (rfl)

theorem k5_pay197_lane (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (l : Fin 16) :
    k5_pay197 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = FloatOps.addf (FloatOps.addf (FloatOps.addf (FloatOps.addf (v1251 (ix1 l)) (v1252 (ix1 l))) (FloatOps.addf (v1253 (ix1 l)) (v1254 (ix1 l)))) (FloatOps.addf (FloatOps.addf (v1255 (ix1 l)) (v1256 (ix1 l))) (FloatOps.addf (FloatOps.addf (v1155 (ix1 l)) (v1160 (ix1 l))) (FloatOps.addf (v1165 (ix1 l)) (v1170 (ix1 l)))))) (FloatOps.addf (FloatOps.addf (FloatOps.addf (FloatOps.addf (v1175 (ix1 l)) (v1180 (ix1 l))) (FloatOps.addf (v1185 (ix1 l)) (v1190 (ix1 l)))) (FloatOps.addf (FloatOps.addf (v1195 (ix1 l)) (v1200 (ix1 l))) (FloatOps.addf (v1205 (ix1 l)) (v1210 (ix1 l))))) (FloatOps.addf (FloatOps.addf (FloatOps.addf (v1215 (ix1 l)) (v1220 (ix1 l))) (FloatOps.addf (v1225 (ix1 l)) (v1230 (ix1 l)))) (FloatOps.addf (FloatOps.addf (v1235 (ix1 l)) (v1240 (ix1 l))) (FloatOps.addf (v1245 (ix1 l)) (v1250 (ix1 l)))))) := by
  unfold k5_pay197
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k5_pay197_tree (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (w : Fin 32 → F .f32) (l : Fin 16)
    (h_v1251 : v1251 (ix1 l) = FloatOps.addf (w 0) (w 1))
    (h_v1252 : v1252 (ix1 l) = FloatOps.addf (w 2) (w 3))
    (h_v1253 : v1253 (ix1 l) = FloatOps.addf (w 4) (w 5))
    (h_v1254 : v1254 (ix1 l) = FloatOps.addf (w 6) (w 7))
    (h_v1255 : v1255 (ix1 l) = FloatOps.addf (w 8) (w 9))
    (h_v1256 : v1256 (ix1 l) = FloatOps.addf (w 10) (w 11))
    (h_v1155 : v1155 (ix1 l) = w 12)
    (h_v1160 : v1160 (ix1 l) = w 13)
    (h_v1165 : v1165 (ix1 l) = w 14)
    (h_v1170 : v1170 (ix1 l) = w 15)
    (h_v1175 : v1175 (ix1 l) = w 16)
    (h_v1180 : v1180 (ix1 l) = w 17)
    (h_v1185 : v1185 (ix1 l) = w 18)
    (h_v1190 : v1190 (ix1 l) = w 19)
    (h_v1195 : v1195 (ix1 l) = w 20)
    (h_v1200 : v1200 (ix1 l) = w 21)
    (h_v1205 : v1205 (ix1 l) = w 22)
    (h_v1210 : v1210 (ix1 l) = w 23)
    (h_v1215 : v1215 (ix1 l) = w 24)
    (h_v1220 : v1220 (ix1 l) = w 25)
    (h_v1225 : v1225 (ix1 l) = w 26)
    (h_v1230 : v1230 (ix1 l) = w 27)
    (h_v1235 : v1235 (ix1 l) = w 28)
    (h_v1240 : v1240 (ix1 l) = w 29)
    (h_v1245 : v1245 (ix1 l) = w 30)
    (h_v1250 : v1250 (ix1 l) = w 31) :
    k5_pay197 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = tree32 w := by
  unfold k5_pay197
  refine (cast_116 _ l).trans ?_
  exact congrArg₂ FloatOps.addf (congrArg₂ FloatOps.addf (congrArg₂ FloatOps.addf (congrArg₂ FloatOps.addf (h_v1251) (h_v1252)) (congrArg₂ FloatOps.addf (h_v1253) (h_v1254))) (congrArg₂ FloatOps.addf (congrArg₂ FloatOps.addf (h_v1255) (h_v1256)) (congrArg₂ FloatOps.addf (congrArg₂ FloatOps.addf (h_v1155) (h_v1160)) (congrArg₂ FloatOps.addf (h_v1165) (h_v1170))))) (congrArg₂ FloatOps.addf (congrArg₂ FloatOps.addf (congrArg₂ FloatOps.addf (congrArg₂ FloatOps.addf (h_v1175) (h_v1180)) (congrArg₂ FloatOps.addf (h_v1185) (h_v1190))) (congrArg₂ FloatOps.addf (congrArg₂ FloatOps.addf (h_v1195) (h_v1200)) (congrArg₂ FloatOps.addf (h_v1205) (h_v1210)))) (congrArg₂ FloatOps.addf (congrArg₂ FloatOps.addf (congrArg₂ FloatOps.addf (h_v1215) (h_v1220)) (congrArg₂ FloatOps.addf (h_v1225) (h_v1230))) (congrArg₂ FloatOps.addf (congrArg₂ FloatOps.addf (h_v1235) (h_v1240)) (congrArg₂ FloatOps.addf (h_v1245) (h_v1250)))))

theorem k5_pay198_lane (v1290 : Vec F S1x1x16 .f32) (l : Fin 16) :
    k5_pay198 v1290 (ix1 l) = v1290 (ix3 (0 : Fin 1) (0 : Fin 1) l) := by
  unfold k5_pay198
  exact cast_16 v1290 l

theorem k5_pay199_lane (v1295 : Vec F S1x1x16 .f32) (l : Fin 16) :
    k5_pay199 v1295 (ix1 l) = v1295 (ix3 (0 : Fin 1) (0 : Fin 1) l) := by
  unfold k5_pay199
  exact cast_16 v1295 l

theorem k5_pay200_lane (v1300 : Vec F S1x1x16 .f32) (l : Fin 16) :
    k5_pay200 v1300 (ix1 l) = v1300 (ix3 (0 : Fin 1) (0 : Fin 1) l) := by
  unfold k5_pay200
  exact cast_16 v1300 l

theorem k5_pay201_lane (v1305 : Vec F S1x1x16 .f32) (l : Fin 16) :
    k5_pay201 v1305 (ix1 l) = v1305 (ix3 (0 : Fin 1) (0 : Fin 1) l) := by
  unfold k5_pay201
  exact cast_16 v1305 l

theorem k5_pay202_lane (v1310 : Vec F S1x1x16 .f32) (l : Fin 16) :
    k5_pay202 v1310 (ix1 l) = v1310 (ix3 (0 : Fin 1) (0 : Fin 1) l) := by
  unfold k5_pay202
  exact cast_16 v1310 l

theorem k5_pay203_lane (v1315 : Vec F S1x1x16 .f32) (l : Fin 16) :
    k5_pay203 v1315 (ix1 l) = v1315 (ix3 (0 : Fin 1) (0 : Fin 1) l) := by
  unfold k5_pay203
  exact cast_16 v1315 l

theorem k5_pay204_lane (v1320 : Vec F S1x1x16 .f32) (l : Fin 16) :
    k5_pay204 v1320 (ix1 l) = v1320 (ix3 (0 : Fin 1) (0 : Fin 1) l) := by
  unfold k5_pay204
  exact cast_16 v1320 l

theorem k5_pay205_lane (v1325 : Vec F S1x1x16 .f32) (l : Fin 16) :
    k5_pay205 v1325 (ix1 l) = v1325 (ix3 (0 : Fin 1) (0 : Fin 1) l) := by
  unfold k5_pay205
  exact cast_16 v1325 l

theorem k5_pay206_lane (v1330 : Vec F S1x1x16 .f32) (l : Fin 16) :
    k5_pay206 v1330 (ix1 l) = v1330 (ix3 (0 : Fin 1) (0 : Fin 1) l) := by
  unfold k5_pay206
  exact cast_16 v1330 l

theorem k5_pay207_lane (v1335 : Vec F S1x1x16 .f32) (l : Fin 16) :
    k5_pay207 v1335 (ix1 l) = v1335 (ix3 (0 : Fin 1) (0 : Fin 1) l) := by
  unfold k5_pay207
  exact cast_16 v1335 l

theorem k5_pay208_lane (v1340 : Vec F S1x1x16 .f32) (l : Fin 16) :
    k5_pay208 v1340 (ix1 l) = v1340 (ix3 (0 : Fin 1) (0 : Fin 1) l) := by
  unfold k5_pay208
  exact cast_16 v1340 l

theorem k5_pay209_lane (v1345 : Vec F S1x1x16 .f32) (l : Fin 16) :
    k5_pay209 v1345 (ix1 l) = v1345 (ix3 (0 : Fin 1) (0 : Fin 1) l) := by
  unfold k5_pay209
  exact cast_16 v1345 l

theorem k5_pay210_lane (v1350 : Vec F S1x1x16 .f32) (l : Fin 16) :
    k5_pay210 v1350 (ix1 l) = v1350 (ix3 (0 : Fin 1) (0 : Fin 1) l) := by
  unfold k5_pay210
  exact cast_16 v1350 l

theorem k5_pay211_lane (v1355 : Vec F S1x1x16 .f32) (l : Fin 16) :
    k5_pay211 v1355 (ix1 l) = v1355 (ix3 (0 : Fin 1) (0 : Fin 1) l) := by
  unfold k5_pay211
  exact cast_16 v1355 l

theorem k5_pay212_lane (v1360 : Vec F S1x1x16 .f32) (l : Fin 16) :
    k5_pay212 v1360 (ix1 l) = v1360 (ix3 (0 : Fin 1) (0 : Fin 1) l) := by
  unfold k5_pay212
  exact cast_16 v1360 l

theorem k5_pay213_lane (v1365 : Vec F S1x1x16 .f32) (l : Fin 16) :
    k5_pay213 v1365 (ix1 l) = v1365 (ix3 (0 : Fin 1) (0 : Fin 1) l) := by
  unfold k5_pay213
  exact cast_16 v1365 l

theorem k5_pay214_lane (v1370 : Vec F S1x1x16 .f32) (l : Fin 16) :
    k5_pay214 v1370 (ix1 l) = v1370 (ix3 (0 : Fin 1) (0 : Fin 1) l) := by
  unfold k5_pay214
  exact cast_16 v1370 l

theorem k5_pay215_lane (v1375 : Vec F S1x1x16 .f32) (l : Fin 16) :
    k5_pay215 v1375 (ix1 l) = v1375 (ix3 (0 : Fin 1) (0 : Fin 1) l) := by
  unfold k5_pay215
  exact cast_16 v1375 l

theorem k5_pay216_lane (v1380 : Vec F S1x1x16 .f32) (l : Fin 16) :
    k5_pay216 v1380 (ix1 l) = v1380 (ix3 (0 : Fin 1) (0 : Fin 1) l) := by
  unfold k5_pay216
  exact cast_16 v1380 l

theorem k5_pay217_lane (v1385 : Vec F S1x1x16 .f32) (l : Fin 16) :
    k5_pay217 v1385 (ix1 l) = v1385 (ix3 (0 : Fin 1) (0 : Fin 1) l) := by
  unfold k5_pay217
  exact cast_16 v1385 l

theorem k5_pay218_lane (v1390 : Vec F S1x1x16 .f32) (l : Fin 16) :
    k5_pay218 v1390 (ix1 l) = v1390 (ix3 (0 : Fin 1) (0 : Fin 1) l) := by
  unfold k5_pay218
  exact cast_16 v1390 l

theorem k5_pay219_lane (v1395 : Vec F S1x1x16 .f32) (l : Fin 16) :
    k5_pay219 v1395 (ix1 l) = v1395 (ix3 (0 : Fin 1) (0 : Fin 1) l) := by
  unfold k5_pay219
  exact cast_16 v1395 l

theorem k5_pay220_lane (v1400 : Vec F S1x1x16 .f32) (l : Fin 16) :
    k5_pay220 v1400 (ix1 l) = v1400 (ix3 (0 : Fin 1) (0 : Fin 1) l) := by
  unfold k5_pay220
  exact cast_16 v1400 l

theorem k5_pay221_lane (v1405 : Vec F S1x1x16 .f32) (l : Fin 16) :
    k5_pay221 v1405 (ix1 l) = v1405 (ix3 (0 : Fin 1) (0 : Fin 1) l) := by
  unfold k5_pay221
  exact cast_16 v1405 l

theorem k5_pay222_lane (v1410 : Vec F S1x1x16 .f32) (l : Fin 16) :
    k5_pay222 v1410 (ix1 l) = v1410 (ix3 (0 : Fin 1) (0 : Fin 1) l) := by
  unfold k5_pay222
  exact cast_16 v1410 l

theorem k5_pay223_lane (v1415 : Vec F S1x1x16 .f32) (l : Fin 16) :
    k5_pay223 v1415 (ix1 l) = v1415 (ix3 (0 : Fin 1) (0 : Fin 1) l) := by
  unfold k5_pay223
  exact cast_16 v1415 l

theorem k5_pay224_lane (v1420 : Vec F S1x1x16 .f32) (l : Fin 16) :
    k5_pay224 v1420 (ix1 l) = v1420 (ix3 (0 : Fin 1) (0 : Fin 1) l) := by
  unfold k5_pay224
  exact cast_16 v1420 l

theorem k5_pay225_lane (v1425 : Vec F S1x1x16 .f32) (l : Fin 16) :
    k5_pay225 v1425 (ix1 l) = v1425 (ix3 (0 : Fin 1) (0 : Fin 1) l) := by
  unfold k5_pay225
  exact cast_16 v1425 l

theorem k5_pay226_lane (v1430 : Vec F S1x1x16 .f32) (l : Fin 16) :
    k5_pay226 v1430 (ix1 l) = v1430 (ix3 (0 : Fin 1) (0 : Fin 1) l) := by
  unfold k5_pay226
  exact cast_16 v1430 l

theorem k5_pay227_lane (v1435 : Vec F S1x1x16 .f32) (l : Fin 16) :
    k5_pay227 v1435 (ix1 l) = v1435 (ix3 (0 : Fin 1) (0 : Fin 1) l) := by
  unfold k5_pay227
  exact cast_16 v1435 l

theorem k5_pay228_lane (v1440 : Vec F S1x1x16 .f32) (l : Fin 16) :
    k5_pay228 v1440 (ix1 l) = v1440 (ix3 (0 : Fin 1) (0 : Fin 1) l) := by
  unfold k5_pay228
  exact cast_16 v1440 l

theorem k5_pay229_lane (v1445 : Vec F S1x1x16 .f32) (l : Fin 16) :
    k5_pay229 v1445 (ix1 l) = v1445 (ix3 (0 : Fin 1) (0 : Fin 1) l) := by
  unfold k5_pay229
  exact cast_16 v1445 l

theorem k5_pay230_lane (v1291 : FVec F S16 .f32) (v1296 : FVec F S16 .f32) (l : Fin 16) :
    k5_pay230 v1291 v1296 (ix1 l) = FloatOps.addf (v1291 (ix1 l)) (v1296 (ix1 l)) := by
  unfold k5_pay230
  exact congrArg₂ FloatOps.addf (rfl) (rfl)

theorem k5_pay231_lane (v1301 : FVec F S16 .f32) (v1306 : FVec F S16 .f32) (l : Fin 16) :
    k5_pay231 v1301 v1306 (ix1 l) = FloatOps.addf (v1301 (ix1 l)) (v1306 (ix1 l)) := by
  unfold k5_pay231
  exact congrArg₂ FloatOps.addf (rfl) (rfl)

theorem k5_pay232_lane (v1311 : FVec F S16 .f32) (v1316 : FVec F S16 .f32) (l : Fin 16) :
    k5_pay232 v1311 v1316 (ix1 l) = FloatOps.addf (v1311 (ix1 l)) (v1316 (ix1 l)) := by
  unfold k5_pay232
  exact congrArg₂ FloatOps.addf (rfl) (rfl)

theorem k5_pay233_lane (v1321 : FVec F S16 .f32) (v1326 : FVec F S16 .f32) (l : Fin 16) :
    k5_pay233 v1321 v1326 (ix1 l) = FloatOps.addf (v1321 (ix1 l)) (v1326 (ix1 l)) := by
  unfold k5_pay233
  exact congrArg₂ FloatOps.addf (rfl) (rfl)

theorem k5_pay234_lane (v1331 : FVec F S16 .f32) (v1336 : FVec F S16 .f32) (l : Fin 16) :
    k5_pay234 v1331 v1336 (ix1 l) = FloatOps.addf (v1331 (ix1 l)) (v1336 (ix1 l)) := by
  unfold k5_pay234
  exact congrArg₂ FloatOps.addf (rfl) (rfl)

theorem k5_pay235_lane (v1341 : FVec F S16 .f32) (v1346 : FVec F S16 .f32) (l : Fin 16) :
    k5_pay235 v1341 v1346 (ix1 l) = FloatOps.addf (v1341 (ix1 l)) (v1346 (ix1 l)) := by
  unfold k5_pay235
  exact congrArg₂ FloatOps.addf (rfl) (rfl)

theorem k5_pay236_lane (v1351 : FVec F S16 .f32) (v1356 : FVec F S16 .f32) (l : Fin 16) :
    k5_pay236 v1351 v1356 (ix1 l) = FloatOps.addf (v1351 (ix1 l)) (v1356 (ix1 l)) := by
  unfold k5_pay236
  exact congrArg₂ FloatOps.addf (rfl) (rfl)

theorem k5_pay237_lane (v1361 : FVec F S16 .f32) (v1366 : FVec F S16 .f32) (l : Fin 16) :
    k5_pay237 v1361 v1366 (ix1 l) = FloatOps.addf (v1361 (ix1 l)) (v1366 (ix1 l)) := by
  unfold k5_pay237
  exact congrArg₂ FloatOps.addf (rfl) (rfl)

theorem k5_pay238_lane (v1371 : FVec F S16 .f32) (v1376 : FVec F S16 .f32) (l : Fin 16) :
    k5_pay238 v1371 v1376 (ix1 l) = FloatOps.addf (v1371 (ix1 l)) (v1376 (ix1 l)) := by
  unfold k5_pay238
  exact congrArg₂ FloatOps.addf (rfl) (rfl)

theorem k5_pay239_lane (v1381 : FVec F S16 .f32) (v1386 : FVec F S16 .f32) (l : Fin 16) :
    k5_pay239 v1381 v1386 (ix1 l) = FloatOps.addf (v1381 (ix1 l)) (v1386 (ix1 l)) := by
  unfold k5_pay239
  exact congrArg₂ FloatOps.addf (rfl) (rfl)

theorem k5_pay240_lane (v1391 : FVec F S16 .f32) (v1396 : FVec F S16 .f32) (l : Fin 16) :
    k5_pay240 v1391 v1396 (ix1 l) = FloatOps.addf (v1391 (ix1 l)) (v1396 (ix1 l)) := by
  unfold k5_pay240
  exact congrArg₂ FloatOps.addf (rfl) (rfl)

theorem k5_pay241_lane (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (l : Fin 16) :
    k5_pay241 v1401 v1406 v1411 v1416 v1421 v1426 v1431 v1436 v1441 v1446 v1447 v1448 v1449 v1450 v1451 v1452 v1453 v1454 v1455 v1456 v1457 (ix3 (0 : Fin 1) (0 : Fin 1) l) = FloatOps.addf (FloatOps.addf (FloatOps.addf (FloatOps.addf (v1447 (ix1 l)) (v1448 (ix1 l))) (FloatOps.addf (v1449 (ix1 l)) (v1450 (ix1 l)))) (FloatOps.addf (FloatOps.addf (v1451 (ix1 l)) (v1452 (ix1 l))) (FloatOps.addf (v1453 (ix1 l)) (v1454 (ix1 l))))) (FloatOps.addf (FloatOps.addf (FloatOps.addf (v1455 (ix1 l)) (v1456 (ix1 l))) (FloatOps.addf (v1457 (ix1 l)) (FloatOps.addf (v1401 (ix1 l)) (v1406 (ix1 l))))) (FloatOps.addf (FloatOps.addf (FloatOps.addf (v1411 (ix1 l)) (v1416 (ix1 l))) (FloatOps.addf (v1421 (ix1 l)) (v1426 (ix1 l)))) (FloatOps.addf (FloatOps.addf (v1431 (ix1 l)) (v1436 (ix1 l))) (FloatOps.addf (v1441 (ix1 l)) (v1446 (ix1 l)))))) := by
  unfold k5_pay241
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k5_pay241_tree (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (w : Fin 32 → F .f32) (l : Fin 16)
    (h_v1447 : v1447 (ix1 l) = FloatOps.addf (w 0) (w 1))
    (h_v1448 : v1448 (ix1 l) = FloatOps.addf (w 2) (w 3))
    (h_v1449 : v1449 (ix1 l) = FloatOps.addf (w 4) (w 5))
    (h_v1450 : v1450 (ix1 l) = FloatOps.addf (w 6) (w 7))
    (h_v1451 : v1451 (ix1 l) = FloatOps.addf (w 8) (w 9))
    (h_v1452 : v1452 (ix1 l) = FloatOps.addf (w 10) (w 11))
    (h_v1453 : v1453 (ix1 l) = FloatOps.addf (w 12) (w 13))
    (h_v1454 : v1454 (ix1 l) = FloatOps.addf (w 14) (w 15))
    (h_v1455 : v1455 (ix1 l) = FloatOps.addf (w 16) (w 17))
    (h_v1456 : v1456 (ix1 l) = FloatOps.addf (w 18) (w 19))
    (h_v1457 : v1457 (ix1 l) = FloatOps.addf (w 20) (w 21))
    (h_v1401 : v1401 (ix1 l) = w 22)
    (h_v1406 : v1406 (ix1 l) = w 23)
    (h_v1411 : v1411 (ix1 l) = w 24)
    (h_v1416 : v1416 (ix1 l) = w 25)
    (h_v1421 : v1421 (ix1 l) = w 26)
    (h_v1426 : v1426 (ix1 l) = w 27)
    (h_v1431 : v1431 (ix1 l) = w 28)
    (h_v1436 : v1436 (ix1 l) = w 29)
    (h_v1441 : v1441 (ix1 l) = w 30)
    (h_v1446 : v1446 (ix1 l) = w 31) :
    k5_pay241 v1401 v1406 v1411 v1416 v1421 v1426 v1431 v1436 v1441 v1446 v1447 v1448 v1449 v1450 v1451 v1452 v1453 v1454 v1455 v1456 v1457 (ix3 (0 : Fin 1) (0 : Fin 1) l) = tree32 w := by
  unfold k5_pay241
  refine (cast_116 _ l).trans ?_
  exact congrArg₂ FloatOps.addf (congrArg₂ FloatOps.addf (congrArg₂ FloatOps.addf (congrArg₂ FloatOps.addf (h_v1447) (h_v1448)) (congrArg₂ FloatOps.addf (h_v1449) (h_v1450))) (congrArg₂ FloatOps.addf (congrArg₂ FloatOps.addf (h_v1451) (h_v1452)) (congrArg₂ FloatOps.addf (h_v1453) (h_v1454)))) (congrArg₂ FloatOps.addf (congrArg₂ FloatOps.addf (congrArg₂ FloatOps.addf (h_v1455) (h_v1456)) (congrArg₂ FloatOps.addf (h_v1457) (congrArg₂ FloatOps.addf (h_v1401) (h_v1406)))) (congrArg₂ FloatOps.addf (congrArg₂ FloatOps.addf (congrArg₂ FloatOps.addf (h_v1411) (h_v1416)) (congrArg₂ FloatOps.addf (h_v1421) (h_v1426))) (congrArg₂ FloatOps.addf (congrArg₂ FloatOps.addf (h_v1431) (h_v1436)) (congrArg₂ FloatOps.addf (h_v1441) (h_v1446)))))

theorem k5_pay242_lane (v1486 : Vec F S1x1x16 .f32) (l : Fin 16) :
    k5_pay242 v1486 (ix1 l) = v1486 (ix3 (0 : Fin 1) (0 : Fin 1) l) := by
  unfold k5_pay242
  exact cast_16 v1486 l

theorem k5_pay243_lane (v1491 : Vec F S1x1x16 .f32) (l : Fin 16) :
    k5_pay243 v1491 (ix1 l) = v1491 (ix3 (0 : Fin 1) (0 : Fin 1) l) := by
  unfold k5_pay243
  exact cast_16 v1491 l

theorem k5_pay244_lane (v1496 : Vec F S1x1x16 .f32) (l : Fin 16) :
    k5_pay244 v1496 (ix1 l) = v1496 (ix3 (0 : Fin 1) (0 : Fin 1) l) := by
  unfold k5_pay244
  exact cast_16 v1496 l

theorem k5_pay245_lane (v1501 : Vec F S1x1x16 .f32) (l : Fin 16) :
    k5_pay245 v1501 (ix1 l) = v1501 (ix3 (0 : Fin 1) (0 : Fin 1) l) := by
  unfold k5_pay245
  exact cast_16 v1501 l

theorem k5_pay246_lane (v1506 : Vec F S1x1x16 .f32) (l : Fin 16) :
    k5_pay246 v1506 (ix1 l) = v1506 (ix3 (0 : Fin 1) (0 : Fin 1) l) := by
  unfold k5_pay246
  exact cast_16 v1506 l

theorem k5_pay247_lane (v1511 : Vec F S1x1x16 .f32) (l : Fin 16) :
    k5_pay247 v1511 (ix1 l) = v1511 (ix3 (0 : Fin 1) (0 : Fin 1) l) := by
  unfold k5_pay247
  exact cast_16 v1511 l

theorem k5_pay248_lane (v1516 : Vec F S1x1x16 .f32) (l : Fin 16) :
    k5_pay248 v1516 (ix1 l) = v1516 (ix3 (0 : Fin 1) (0 : Fin 1) l) := by
  unfold k5_pay248
  exact cast_16 v1516 l

theorem k5_pay249_lane (v1521 : Vec F S1x1x16 .f32) (l : Fin 16) :
    k5_pay249 v1521 (ix1 l) = v1521 (ix3 (0 : Fin 1) (0 : Fin 1) l) := by
  unfold k5_pay249
  exact cast_16 v1521 l

theorem k5_pay250_lane (v1526 : Vec F S1x1x16 .f32) (l : Fin 16) :
    k5_pay250 v1526 (ix1 l) = v1526 (ix3 (0 : Fin 1) (0 : Fin 1) l) := by
  unfold k5_pay250
  exact cast_16 v1526 l

theorem k5_pay251_lane (v1531 : Vec F S1x1x16 .f32) (l : Fin 16) :
    k5_pay251 v1531 (ix1 l) = v1531 (ix3 (0 : Fin 1) (0 : Fin 1) l) := by
  unfold k5_pay251
  exact cast_16 v1531 l

theorem k5_pay252_lane (v1536 : Vec F S1x1x16 .f32) (l : Fin 16) :
    k5_pay252 v1536 (ix1 l) = v1536 (ix3 (0 : Fin 1) (0 : Fin 1) l) := by
  unfold k5_pay252
  exact cast_16 v1536 l

theorem k5_pay253_lane (v1541 : Vec F S1x1x16 .f32) (l : Fin 16) :
    k5_pay253 v1541 (ix1 l) = v1541 (ix3 (0 : Fin 1) (0 : Fin 1) l) := by
  unfold k5_pay253
  exact cast_16 v1541 l

theorem k5_pay254_lane (v1546 : Vec F S1x1x16 .f32) (l : Fin 16) :
    k5_pay254 v1546 (ix1 l) = v1546 (ix3 (0 : Fin 1) (0 : Fin 1) l) := by
  unfold k5_pay254
  exact cast_16 v1546 l

theorem k5_pay255_lane (v1551 : Vec F S1x1x16 .f32) (l : Fin 16) :
    k5_pay255 v1551 (ix1 l) = v1551 (ix3 (0 : Fin 1) (0 : Fin 1) l) := by
  unfold k5_pay255
  exact cast_16 v1551 l

theorem k5_pay256_lane (v1556 : Vec F S1x1x16 .f32) (l : Fin 16) :
    k5_pay256 v1556 (ix1 l) = v1556 (ix3 (0 : Fin 1) (0 : Fin 1) l) := by
  unfold k5_pay256
  exact cast_16 v1556 l

theorem k5_pay257_lane (v1561 : Vec F S1x1x16 .f32) (l : Fin 16) :
    k5_pay257 v1561 (ix1 l) = v1561 (ix3 (0 : Fin 1) (0 : Fin 1) l) := by
  unfold k5_pay257
  exact cast_16 v1561 l

theorem k5_pay258_lane (v1566 : Vec F S1x1x16 .f32) (l : Fin 16) :
    k5_pay258 v1566 (ix1 l) = v1566 (ix3 (0 : Fin 1) (0 : Fin 1) l) := by
  unfold k5_pay258
  exact cast_16 v1566 l

theorem k5_pay259_lane (v1571 : Vec F S1x1x16 .f32) (l : Fin 16) :
    k5_pay259 v1571 (ix1 l) = v1571 (ix3 (0 : Fin 1) (0 : Fin 1) l) := by
  unfold k5_pay259
  exact cast_16 v1571 l

theorem k5_pay260_lane (v1576 : Vec F S1x1x16 .f32) (l : Fin 16) :
    k5_pay260 v1576 (ix1 l) = v1576 (ix3 (0 : Fin 1) (0 : Fin 1) l) := by
  unfold k5_pay260
  exact cast_16 v1576 l

theorem k5_pay261_lane (v1581 : Vec F S1x1x16 .f32) (l : Fin 16) :
    k5_pay261 v1581 (ix1 l) = v1581 (ix3 (0 : Fin 1) (0 : Fin 1) l) := by
  unfold k5_pay261
  exact cast_16 v1581 l

theorem k5_pay262_lane (v1586 : Vec F S1x1x16 .f32) (l : Fin 16) :
    k5_pay262 v1586 (ix1 l) = v1586 (ix3 (0 : Fin 1) (0 : Fin 1) l) := by
  unfold k5_pay262
  exact cast_16 v1586 l

theorem k5_pay263_lane (v1591 : Vec F S1x1x16 .f32) (l : Fin 16) :
    k5_pay263 v1591 (ix1 l) = v1591 (ix3 (0 : Fin 1) (0 : Fin 1) l) := by
  unfold k5_pay263
  exact cast_16 v1591 l

theorem k5_pay264_lane (v1596 : Vec F S1x1x16 .f32) (l : Fin 16) :
    k5_pay264 v1596 (ix1 l) = v1596 (ix3 (0 : Fin 1) (0 : Fin 1) l) := by
  unfold k5_pay264
  exact cast_16 v1596 l

theorem k5_pay265_lane (v1601 : Vec F S1x1x16 .f32) (l : Fin 16) :
    k5_pay265 v1601 (ix1 l) = v1601 (ix3 (0 : Fin 1) (0 : Fin 1) l) := by
  unfold k5_pay265
  exact cast_16 v1601 l

theorem k5_pay266_lane (v1606 : Vec F S1x1x16 .f32) (l : Fin 16) :
    k5_pay266 v1606 (ix1 l) = v1606 (ix3 (0 : Fin 1) (0 : Fin 1) l) := by
  unfold k5_pay266
  exact cast_16 v1606 l

theorem k5_pay267_lane (v1611 : Vec F S1x1x16 .f32) (l : Fin 16) :
    k5_pay267 v1611 (ix1 l) = v1611 (ix3 (0 : Fin 1) (0 : Fin 1) l) := by
  unfold k5_pay267
  exact cast_16 v1611 l

theorem k5_pay268_lane (v1487 : FVec F S16 .f32) (v1492 : FVec F S16 .f32) (l : Fin 16) :
    k5_pay268 v1487 v1492 (ix1 l) = FloatOps.addf (v1487 (ix1 l)) (v1492 (ix1 l)) := by
  unfold k5_pay268
  exact congrArg₂ FloatOps.addf (rfl) (rfl)

theorem k5_pay269_lane (v1497 : FVec F S16 .f32) (v1502 : FVec F S16 .f32) (l : Fin 16) :
    k5_pay269 v1497 v1502 (ix1 l) = FloatOps.addf (v1497 (ix1 l)) (v1502 (ix1 l)) := by
  unfold k5_pay269
  exact congrArg₂ FloatOps.addf (rfl) (rfl)

theorem k5_pay270_lane (v1507 : FVec F S16 .f32) (v1512 : FVec F S16 .f32) (l : Fin 16) :
    k5_pay270 v1507 v1512 (ix1 l) = FloatOps.addf (v1507 (ix1 l)) (v1512 (ix1 l)) := by
  unfold k5_pay270
  exact congrArg₂ FloatOps.addf (rfl) (rfl)

theorem k5_pay271_lane (v1517 : FVec F S16 .f32) (v1522 : FVec F S16 .f32) (l : Fin 16) :
    k5_pay271 v1517 v1522 (ix1 l) = FloatOps.addf (v1517 (ix1 l)) (v1522 (ix1 l)) := by
  unfold k5_pay271
  exact congrArg₂ FloatOps.addf (rfl) (rfl)

theorem k5_pay272_lane (v1527 : FVec F S16 .f32) (v1532 : FVec F S16 .f32) (l : Fin 16) :
    k5_pay272 v1527 v1532 (ix1 l) = FloatOps.addf (v1527 (ix1 l)) (v1532 (ix1 l)) := by
  unfold k5_pay272
  exact congrArg₂ FloatOps.addf (rfl) (rfl)

theorem k5_pay273_lane (v1537 : FVec F S16 .f32) (v1542 : FVec F S16 .f32) (l : Fin 16) :
    k5_pay273 v1537 v1542 (ix1 l) = FloatOps.addf (v1537 (ix1 l)) (v1542 (ix1 l)) := by
  unfold k5_pay273
  exact congrArg₂ FloatOps.addf (rfl) (rfl)

theorem k5_pay274_lane (v1547 : FVec F S16 .f32) (v1552 : FVec F S16 .f32) (l : Fin 16) :
    k5_pay274 v1547 v1552 (ix1 l) = FloatOps.addf (v1547 (ix1 l)) (v1552 (ix1 l)) := by
  unfold k5_pay274
  exact congrArg₂ FloatOps.addf (rfl) (rfl)

theorem k5_pay275_lane (v1557 : FVec F S16 .f32) (v1562 : FVec F S16 .f32) (l : Fin 16) :
    k5_pay275 v1557 v1562 (ix1 l) = FloatOps.addf (v1557 (ix1 l)) (v1562 (ix1 l)) := by
  unfold k5_pay275
  exact congrArg₂ FloatOps.addf (rfl) (rfl)

theorem k5_pay276_lane (v1567 : FVec F S16 .f32) (v1572 : FVec F S16 .f32) (l : Fin 16) :
    k5_pay276 v1567 v1572 (ix1 l) = FloatOps.addf (v1567 (ix1 l)) (v1572 (ix1 l)) := by
  unfold k5_pay276
  exact congrArg₂ FloatOps.addf (rfl) (rfl)

theorem k5_pay277_lane (v1577 : FVec F S16 .f32) (v1582 : FVec F S16 .f32) (l : Fin 16) :
    k5_pay277 v1577 v1582 (ix1 l) = FloatOps.addf (v1577 (ix1 l)) (v1582 (ix1 l)) := by
  unfold k5_pay277
  exact congrArg₂ FloatOps.addf (rfl) (rfl)

theorem k5_pay278_lane (v1587 : FVec F S16 .f32) (v1592 : FVec F S16 .f32) (l : Fin 16) :
    k5_pay278 v1587 v1592 (ix1 l) = FloatOps.addf (v1587 (ix1 l)) (v1592 (ix1 l)) := by
  unfold k5_pay278
  exact congrArg₂ FloatOps.addf (rfl) (rfl)

theorem k5_pay279_lane (v1597 : FVec F S16 .f32) (v1602 : FVec F S16 .f32) (l : Fin 16) :
    k5_pay279 v1597 v1602 (ix1 l) = FloatOps.addf (v1597 (ix1 l)) (v1602 (ix1 l)) := by
  unfold k5_pay279
  exact congrArg₂ FloatOps.addf (rfl) (rfl)

theorem k5_pay280_lane (v1607 : FVec F S16 .f32) (v1612 : FVec F S16 .f32) (l : Fin 16) :
    k5_pay280 v1607 v1612 (ix1 l) = FloatOps.addf (v1607 (ix1 l)) (v1612 (ix1 l)) := by
  unfold k5_pay280
  exact congrArg₂ FloatOps.addf (rfl) (rfl)

theorem k5_pay281_lane (v1616 : Vec F S1x1x16 .f32) (v1621 : Vec F S1x1x16 .f32) (l : Fin 16) :
    k5_pay281 v1616 v1621 (ix1 l) = FloatOps.addf (v1616 (ix3 (0 : Fin 1) (0 : Fin 1) l)) (v1621 (ix3 (0 : Fin 1) (0 : Fin 1) l)) := by
  unfold k5_pay281
  exact congrArg₂ FloatOps.addf (cast_16 v1616 l) (cast_16 v1621 l)

theorem k5_pay282_lane (v1626 : Vec F S1x1x16 .f32) (v1631 : Vec F S1x1x16 .f32) (l : Fin 16) :
    k5_pay282 v1626 v1631 (ix1 l) = FloatOps.addf (v1626 (ix3 (0 : Fin 1) (0 : Fin 1) l)) (v1631 (ix3 (0 : Fin 1) (0 : Fin 1) l)) := by
  unfold k5_pay282
  exact congrArg₂ FloatOps.addf (cast_16 v1626 l) (cast_16 v1631 l)

theorem k5_pay283_lane (v1636 : Vec F S1x1x16 .f32) (v1641 : Vec F S1x1x16 .f32) (l : Fin 16) :
    k5_pay283 v1636 v1641 (ix1 l) = FloatOps.addf (v1636 (ix3 (0 : Fin 1) (0 : Fin 1) l)) (v1641 (ix3 (0 : Fin 1) (0 : Fin 1) l)) := by
  unfold k5_pay283
  exact congrArg₂ FloatOps.addf (cast_16 v1636 l) (cast_16 v1641 l)

theorem k5_pay284_lane (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (l : Fin 16) :
    k5_pay284 v1643 v1644 v1645 v1646 v1647 v1648 v1649 v1650 v1651 v1652 v1653 v1654 v1655 v1656 v1657 v1658 (ix1 l) = FloatOps.addf (FloatOps.addf (FloatOps.addf (FloatOps.addf (v1643 (ix1 l)) (v1644 (ix1 l))) (FloatOps.addf (v1645 (ix1 l)) (v1646 (ix1 l)))) (FloatOps.addf (FloatOps.addf (v1647 (ix1 l)) (v1648 (ix1 l))) (FloatOps.addf (v1649 (ix1 l)) (v1650 (ix1 l))))) (FloatOps.addf (FloatOps.addf (FloatOps.addf (v1651 (ix1 l)) (v1652 (ix1 l))) (FloatOps.addf (v1653 (ix1 l)) (v1654 (ix1 l)))) (FloatOps.addf (FloatOps.addf (v1655 (ix1 l)) (v1656 (ix1 l))) (FloatOps.addf (v1657 (ix1 l)) (v1658 (ix1 l))))) := by
  unfold k5_pay284
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))

theorem k5_pay284_tree (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (w : Fin 32 → F .f32) (l : Fin 16)
    (h_v1643 : v1643 (ix1 l) = FloatOps.addf (w 0) (w 1))
    (h_v1644 : v1644 (ix1 l) = FloatOps.addf (w 2) (w 3))
    (h_v1645 : v1645 (ix1 l) = FloatOps.addf (w 4) (w 5))
    (h_v1646 : v1646 (ix1 l) = FloatOps.addf (w 6) (w 7))
    (h_v1647 : v1647 (ix1 l) = FloatOps.addf (w 8) (w 9))
    (h_v1648 : v1648 (ix1 l) = FloatOps.addf (w 10) (w 11))
    (h_v1649 : v1649 (ix1 l) = FloatOps.addf (w 12) (w 13))
    (h_v1650 : v1650 (ix1 l) = FloatOps.addf (w 14) (w 15))
    (h_v1651 : v1651 (ix1 l) = FloatOps.addf (w 16) (w 17))
    (h_v1652 : v1652 (ix1 l) = FloatOps.addf (w 18) (w 19))
    (h_v1653 : v1653 (ix1 l) = FloatOps.addf (w 20) (w 21))
    (h_v1654 : v1654 (ix1 l) = FloatOps.addf (w 22) (w 23))
    (h_v1655 : v1655 (ix1 l) = FloatOps.addf (w 24) (w 25))
    (h_v1656 : v1656 (ix1 l) = FloatOps.addf (w 26) (w 27))
    (h_v1657 : v1657 (ix1 l) = FloatOps.addf (w 28) (w 29))
    (h_v1658 : v1658 (ix1 l) = FloatOps.addf (w 30) (w 31)) :
    k5_pay284 v1643 v1644 v1645 v1646 v1647 v1648 v1649 v1650 v1651 v1652 v1653 v1654 v1655 v1656 v1657 v1658 (ix1 l) = tree32 w := by
  unfold k5_pay284
  exact congrArg₂ FloatOps.addf (congrArg₂ FloatOps.addf (congrArg₂ FloatOps.addf (congrArg₂ FloatOps.addf (h_v1643) (h_v1644)) (congrArg₂ FloatOps.addf (h_v1645) (h_v1646))) (congrArg₂ FloatOps.addf (congrArg₂ FloatOps.addf (h_v1647) (h_v1648)) (congrArg₂ FloatOps.addf (h_v1649) (h_v1650)))) (congrArg₂ FloatOps.addf (congrArg₂ FloatOps.addf (congrArg₂ FloatOps.addf (h_v1651) (h_v1652)) (congrArg₂ FloatOps.addf (h_v1653) (h_v1654))) (congrArg₂ FloatOps.addf (congrArg₂ FloatOps.addf (h_v1655) (h_v1656)) (congrArg₂ FloatOps.addf (h_v1657) (h_v1658))))

theorem k5_pay285_lane (v114 : Vec F S1x1x16 .f32) (l : Fin 16) :
    k5_pay285 v114 (ix1 l) = v114 (ix3 (0 : Fin 1) (0 : Fin 1) l) := by
  unfold k5_pay285
  exact cast_16 v114 l

theorem k5_pay286_lane (v119 : Vec F S1x1x16 .f32) (l : Fin 16) :
    k5_pay286 v119 (ix1 l) = v119 (ix3 (0 : Fin 1) (0 : Fin 1) l) := by
  unfold k5_pay286
  exact cast_16 v119 l

theorem k5_pay287_lane (v124 : Vec F S1x1x16 .f32) (l : Fin 16) :
    k5_pay287 v124 (ix1 l) = v124 (ix3 (0 : Fin 1) (0 : Fin 1) l) := by
  unfold k5_pay287
  exact cast_16 v124 l

theorem k5_pay288_lane (v129 : Vec F S1x1x16 .f32) (l : Fin 16) :
    k5_pay288 v129 (ix1 l) = v129 (ix3 (0 : Fin 1) (0 : Fin 1) l) := by
  unfold k5_pay288
  exact cast_16 v129 l

theorem k5_pay289_lane (v134 : Vec F S1x1x16 .f32) (l : Fin 16) :
    k5_pay289 v134 (ix1 l) = v134 (ix3 (0 : Fin 1) (0 : Fin 1) l) := by
  unfold k5_pay289
  exact cast_16 v134 l

theorem k5_pay290_lane (v139 : Vec F S1x1x16 .f32) (l : Fin 16) :
    k5_pay290 v139 (ix1 l) = v139 (ix3 (0 : Fin 1) (0 : Fin 1) l) := by
  unfold k5_pay290
  exact cast_16 v139 l

theorem k5_pay291_lane (v144 : Vec F S1x1x16 .f32) (l : Fin 16) :
    k5_pay291 v144 (ix1 l) = v144 (ix3 (0 : Fin 1) (0 : Fin 1) l) := by
  unfold k5_pay291
  exact cast_16 v144 l

theorem k5_pay292_lane (v149 : Vec F S1x1x16 .f32) (l : Fin 16) :
    k5_pay292 v149 (ix1 l) = v149 (ix3 (0 : Fin 1) (0 : Fin 1) l) := by
  unfold k5_pay292
  exact cast_16 v149 l

theorem k5_pay293_lane (v154 : Vec F S1x1x16 .f32) (l : Fin 16) :
    k5_pay293 v154 (ix1 l) = v154 (ix3 (0 : Fin 1) (0 : Fin 1) l) := by
  unfold k5_pay293
  exact cast_16 v154 l

theorem k5_pay294_lane (v159 : Vec F S1x1x16 .f32) (l : Fin 16) :
    k5_pay294 v159 (ix1 l) = v159 (ix3 (0 : Fin 1) (0 : Fin 1) l) := by
  unfold k5_pay294
  exact cast_16 v159 l

theorem k5_pay295_lane (v164 : Vec F S1x1x16 .f32) (l : Fin 16) :
    k5_pay295 v164 (ix1 l) = v164 (ix3 (0 : Fin 1) (0 : Fin 1) l) := by
  unfold k5_pay295
  exact cast_16 v164 l

theorem k5_pay296_lane (v169 : Vec F S1x1x16 .f32) (l : Fin 16) :
    k5_pay296 v169 (ix1 l) = v169 (ix3 (0 : Fin 1) (0 : Fin 1) l) := by
  unfold k5_pay296
  exact cast_16 v169 l

theorem k5_pay297_lane (v174 : Vec F S1x1x16 .f32) (l : Fin 16) :
    k5_pay297 v174 (ix1 l) = v174 (ix3 (0 : Fin 1) (0 : Fin 1) l) := by
  unfold k5_pay297
  exact cast_16 v174 l

theorem k5_pay298_lane (v179 : Vec F S1x1x16 .f32) (l : Fin 16) :
    k5_pay298 v179 (ix1 l) = v179 (ix3 (0 : Fin 1) (0 : Fin 1) l) := by
  unfold k5_pay298
  exact cast_16 v179 l

theorem k5_pay299_lane (v184 : Vec F S1x1x16 .f32) (l : Fin 16) :
    k5_pay299 v184 (ix1 l) = v184 (ix3 (0 : Fin 1) (0 : Fin 1) l) := by
  unfold k5_pay299
  exact cast_16 v184 l

theorem k5_pay300_lane (v189 : Vec F S1x1x16 .f32) (l : Fin 16) :
    k5_pay300 v189 (ix1 l) = v189 (ix3 (0 : Fin 1) (0 : Fin 1) l) := by
  unfold k5_pay300
  exact cast_16 v189 l

theorem k5_pay301_lane (v194 : Vec F S1x1x16 .f32) (l : Fin 16) :
    k5_pay301 v194 (ix1 l) = v194 (ix3 (0 : Fin 1) (0 : Fin 1) l) := by
  unfold k5_pay301
  exact cast_16 v194 l

theorem k5_pay302_lane (v199 : Vec F S1x1x16 .f32) (l : Fin 16) :
    k5_pay302 v199 (ix1 l) = v199 (ix3 (0 : Fin 1) (0 : Fin 1) l) := by
  unfold k5_pay302
  exact cast_16 v199 l

theorem k5_pay303_lane (v204 : Vec F S1x1x16 .f32) (l : Fin 16) :
    k5_pay303 v204 (ix1 l) = v204 (ix3 (0 : Fin 1) (0 : Fin 1) l) := by
  unfold k5_pay303
  exact cast_16 v204 l

theorem k5_pay304_lane (v209 : Vec F S1x1x16 .f32) (l : Fin 16) :
    k5_pay304 v209 (ix1 l) = v209 (ix3 (0 : Fin 1) (0 : Fin 1) l) := by
  unfold k5_pay304
  exact cast_16 v209 l

theorem k5_pay305_lane (v214 : Vec F S1x1x16 .f32) (l : Fin 16) :
    k5_pay305 v214 (ix1 l) = v214 (ix3 (0 : Fin 1) (0 : Fin 1) l) := by
  unfold k5_pay305
  exact cast_16 v214 l

theorem k5_pay306_lane (v219 : Vec F S1x1x16 .f32) (l : Fin 16) :
    k5_pay306 v219 (ix1 l) = v219 (ix3 (0 : Fin 1) (0 : Fin 1) l) := by
  unfold k5_pay306
  exact cast_16 v219 l

theorem k5_pay307_lane (v224 : Vec F S1x1x16 .f32) (l : Fin 16) :
    k5_pay307 v224 (ix1 l) = v224 (ix3 (0 : Fin 1) (0 : Fin 1) l) := by
  unfold k5_pay307
  exact cast_16 v224 l

theorem k5_pay308_lane (v229 : Vec F S1x1x16 .f32) (l : Fin 16) :
    k5_pay308 v229 (ix1 l) = v229 (ix3 (0 : Fin 1) (0 : Fin 1) l) := by
  unfold k5_pay308
  exact cast_16 v229 l

theorem k5_pay309_lane (v234 : Vec F S1x1x16 .f32) (l : Fin 16) :
    k5_pay309 v234 (ix1 l) = v234 (ix3 (0 : Fin 1) (0 : Fin 1) l) := by
  unfold k5_pay309
  exact cast_16 v234 l

theorem k5_pay310_lane (v239 : Vec F S1x1x16 .f32) (l : Fin 16) :
    k5_pay310 v239 (ix1 l) = v239 (ix3 (0 : Fin 1) (0 : Fin 1) l) := by
  unfold k5_pay310
  exact cast_16 v239 l

theorem k5_pay311_lane (v244 : Vec F S1x1x16 .f32) (l : Fin 16) :
    k5_pay311 v244 (ix1 l) = v244 (ix3 (0 : Fin 1) (0 : Fin 1) l) := by
  unfold k5_pay311
  exact cast_16 v244 l

theorem k5_pay312_lane (v249 : Vec F S1x1x16 .f32) (l : Fin 16) :
    k5_pay312 v249 (ix1 l) = v249 (ix3 (0 : Fin 1) (0 : Fin 1) l) := by
  unfold k5_pay312
  exact cast_16 v249 l

theorem k5_pay313_lane (v254 : Vec F S1x1x16 .f32) (l : Fin 16) :
    k5_pay313 v254 (ix1 l) = v254 (ix3 (0 : Fin 1) (0 : Fin 1) l) := by
  unfold k5_pay313
  exact cast_16 v254 l

theorem k5_pay314_lane (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (l : Fin 16) :
    k5_pay314 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = FloatOps.addf (FloatOps.addf (FloatOps.addf (FloatOps.addf (FloatOps.addf (v115 (ix1 l)) (v120 (ix1 l))) (FloatOps.addf (v125 (ix1 l)) (v130 (ix1 l)))) (FloatOps.addf (FloatOps.addf (v135 (ix1 l)) (v140 (ix1 l))) (FloatOps.addf (v145 (ix1 l)) (v150 (ix1 l))))) (FloatOps.addf (FloatOps.addf (FloatOps.addf (v155 (ix1 l)) (v160 (ix1 l))) (FloatOps.addf (v165 (ix1 l)) (v170 (ix1 l)))) (FloatOps.addf (FloatOps.addf (v175 (ix1 l)) (v180 (ix1 l))) (FloatOps.addf (v185 (ix1 l)) (v190 (ix1 l)))))) (FloatOps.addf (FloatOps.addf (FloatOps.addf (FloatOps.addf (v195 (ix1 l)) (v200 (ix1 l))) (FloatOps.addf (v205 (ix1 l)) (v210 (ix1 l)))) (FloatOps.addf (FloatOps.addf (v215 (ix1 l)) (v220 (ix1 l))) (FloatOps.addf (v225 (ix1 l)) (v230 (ix1 l))))) (FloatOps.addf (FloatOps.addf (FloatOps.addf (v235 (ix1 l)) (v240 (ix1 l))) (FloatOps.addf (v245 (ix1 l)) (v250 (ix1 l)))) (FloatOps.addf (FloatOps.addf (v255 (ix1 l)) (v259 (ix3 (0 : Fin 1) (0 : Fin 1) l))) (FloatOps.addf (v264 (ix3 (0 : Fin 1) (0 : Fin 1) l)) (v269 (ix3 (0 : Fin 1) (0 : Fin 1) l)))))) := by
  unfold k5_pay314
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (cast_16 v259 l)) (congrArg₂ FloatOps.addf (cast_16 v264 l) (cast_16 v269 l)))))

theorem k5_pay314_tree (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (w : Fin 32 → F .f32) (l : Fin 16)
    (h_v115 : v115 (ix1 l) = w 0)
    (h_v120 : v120 (ix1 l) = w 1)
    (h_v125 : v125 (ix1 l) = w 2)
    (h_v130 : v130 (ix1 l) = w 3)
    (h_v135 : v135 (ix1 l) = w 4)
    (h_v140 : v140 (ix1 l) = w 5)
    (h_v145 : v145 (ix1 l) = w 6)
    (h_v150 : v150 (ix1 l) = w 7)
    (h_v155 : v155 (ix1 l) = w 8)
    (h_v160 : v160 (ix1 l) = w 9)
    (h_v165 : v165 (ix1 l) = w 10)
    (h_v170 : v170 (ix1 l) = w 11)
    (h_v175 : v175 (ix1 l) = w 12)
    (h_v180 : v180 (ix1 l) = w 13)
    (h_v185 : v185 (ix1 l) = w 14)
    (h_v190 : v190 (ix1 l) = w 15)
    (h_v195 : v195 (ix1 l) = w 16)
    (h_v200 : v200 (ix1 l) = w 17)
    (h_v205 : v205 (ix1 l) = w 18)
    (h_v210 : v210 (ix1 l) = w 19)
    (h_v215 : v215 (ix1 l) = w 20)
    (h_v220 : v220 (ix1 l) = w 21)
    (h_v225 : v225 (ix1 l) = w 22)
    (h_v230 : v230 (ix1 l) = w 23)
    (h_v235 : v235 (ix1 l) = w 24)
    (h_v240 : v240 (ix1 l) = w 25)
    (h_v245 : v245 (ix1 l) = w 26)
    (h_v250 : v250 (ix1 l) = w 27)
    (h_v255 : v255 (ix1 l) = w 28)
    (h_v259 : v259 (ix3 (0 : Fin 1) (0 : Fin 1) l) = w 29)
    (h_v264 : v264 (ix3 (0 : Fin 1) (0 : Fin 1) l) = w 30)
    (h_v269 : v269 (ix3 (0 : Fin 1) (0 : Fin 1) l) = w 31) :
    k5_pay314 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = tree32 w := by
  unfold k5_pay314
  refine (cast_116 _ l).trans ?_
  exact congrArg₂ FloatOps.addf (congrArg₂ FloatOps.addf (congrArg₂ FloatOps.addf (congrArg₂ FloatOps.addf (congrArg₂ FloatOps.addf (h_v115) (h_v120)) (congrArg₂ FloatOps.addf (h_v125) (h_v130))) (congrArg₂ FloatOps.addf (congrArg₂ FloatOps.addf (h_v135) (h_v140)) (congrArg₂ FloatOps.addf (h_v145) (h_v150)))) (congrArg₂ FloatOps.addf (congrArg₂ FloatOps.addf (congrArg₂ FloatOps.addf (h_v155) (h_v160)) (congrArg₂ FloatOps.addf (h_v165) (h_v170))) (congrArg₂ FloatOps.addf (congrArg₂ FloatOps.addf (h_v175) (h_v180)) (congrArg₂ FloatOps.addf (h_v185) (h_v190))))) (congrArg₂ FloatOps.addf (congrArg₂ FloatOps.addf (congrArg₂ FloatOps.addf (congrArg₂ FloatOps.addf (h_v195) (h_v200)) (congrArg₂ FloatOps.addf (h_v205) (h_v210))) (congrArg₂ FloatOps.addf (congrArg₂ FloatOps.addf (h_v215) (h_v220)) (congrArg₂ FloatOps.addf (h_v225) (h_v230)))) (congrArg₂ FloatOps.addf (congrArg₂ FloatOps.addf (congrArg₂ FloatOps.addf (h_v235) (h_v240)) (congrArg₂ FloatOps.addf (h_v245) (h_v250))) (congrArg₂ FloatOps.addf (congrArg₂ FloatOps.addf (h_v255) ((cast_16 v259 l).trans h_v259)) (congrArg₂ FloatOps.addf ((cast_16 v264 l).trans h_v264) ((cast_16 v269 l).trans h_v269)))))

theorem k5_pay315_lane (v310 : Vec F S1x1x16 .f32) (l : Fin 16) :
    k5_pay315 v310 (ix1 l) = v310 (ix3 (0 : Fin 1) (0 : Fin 1) l) := by
  unfold k5_pay315
  exact cast_16 v310 l

theorem k5_pay316_lane (v315 : Vec F S1x1x16 .f32) (l : Fin 16) :
    k5_pay316 v315 (ix1 l) = v315 (ix3 (0 : Fin 1) (0 : Fin 1) l) := by
  unfold k5_pay316
  exact cast_16 v315 l

theorem k5_pay317_lane (v320 : Vec F S1x1x16 .f32) (l : Fin 16) :
    k5_pay317 v320 (ix1 l) = v320 (ix3 (0 : Fin 1) (0 : Fin 1) l) := by
  unfold k5_pay317
  exact cast_16 v320 l

theorem k5_pay318_lane (v325 : Vec F S1x1x16 .f32) (l : Fin 16) :
    k5_pay318 v325 (ix1 l) = v325 (ix3 (0 : Fin 1) (0 : Fin 1) l) := by
  unfold k5_pay318
  exact cast_16 v325 l

theorem k5_pay319_lane (v330 : Vec F S1x1x16 .f32) (l : Fin 16) :
    k5_pay319 v330 (ix1 l) = v330 (ix3 (0 : Fin 1) (0 : Fin 1) l) := by
  unfold k5_pay319
  exact cast_16 v330 l

theorem k5_pay320_lane (v335 : Vec F S1x1x16 .f32) (l : Fin 16) :
    k5_pay320 v335 (ix1 l) = v335 (ix3 (0 : Fin 1) (0 : Fin 1) l) := by
  unfold k5_pay320
  exact cast_16 v335 l

theorem k5_pay321_lane (v340 : Vec F S1x1x16 .f32) (l : Fin 16) :
    k5_pay321 v340 (ix1 l) = v340 (ix3 (0 : Fin 1) (0 : Fin 1) l) := by
  unfold k5_pay321
  exact cast_16 v340 l

theorem k5_pay322_lane (v345 : Vec F S1x1x16 .f32) (l : Fin 16) :
    k5_pay322 v345 (ix1 l) = v345 (ix3 (0 : Fin 1) (0 : Fin 1) l) := by
  unfold k5_pay322
  exact cast_16 v345 l

theorem k5_pay323_lane (v350 : Vec F S1x1x16 .f32) (l : Fin 16) :
    k5_pay323 v350 (ix1 l) = v350 (ix3 (0 : Fin 1) (0 : Fin 1) l) := by
  unfold k5_pay323
  exact cast_16 v350 l

theorem k5_pay324_lane (v355 : Vec F S1x1x16 .f32) (l : Fin 16) :
    k5_pay324 v355 (ix1 l) = v355 (ix3 (0 : Fin 1) (0 : Fin 1) l) := by
  unfold k5_pay324
  exact cast_16 v355 l

theorem k5_pay325_lane (v360 : Vec F S1x1x16 .f32) (l : Fin 16) :
    k5_pay325 v360 (ix1 l) = v360 (ix3 (0 : Fin 1) (0 : Fin 1) l) := by
  unfold k5_pay325
  exact cast_16 v360 l

theorem k5_pay326_lane (v365 : Vec F S1x1x16 .f32) (l : Fin 16) :
    k5_pay326 v365 (ix1 l) = v365 (ix3 (0 : Fin 1) (0 : Fin 1) l) := by
  unfold k5_pay326
  exact cast_16 v365 l

theorem k5_pay327_lane (v370 : Vec F S1x1x16 .f32) (l : Fin 16) :
    k5_pay327 v370 (ix1 l) = v370 (ix3 (0 : Fin 1) (0 : Fin 1) l) := by
  unfold k5_pay327
  exact cast_16 v370 l

theorem k5_pay328_lane (v375 : Vec F S1x1x16 .f32) (l : Fin 16) :
    k5_pay328 v375 (ix1 l) = v375 (ix3 (0 : Fin 1) (0 : Fin 1) l) := by
  unfold k5_pay328
  exact cast_16 v375 l

theorem k5_pay329_lane (v380 : Vec F S1x1x16 .f32) (l : Fin 16) :
    k5_pay329 v380 (ix1 l) = v380 (ix3 (0 : Fin 1) (0 : Fin 1) l) := by
  unfold k5_pay329
  exact cast_16 v380 l

theorem k5_pay330_lane (v385 : Vec F S1x1x16 .f32) (l : Fin 16) :
    k5_pay330 v385 (ix1 l) = v385 (ix3 (0 : Fin 1) (0 : Fin 1) l) := by
  unfold k5_pay330
  exact cast_16 v385 l

theorem k5_pay331_lane (v390 : Vec F S1x1x16 .f32) (l : Fin 16) :
    k5_pay331 v390 (ix1 l) = v390 (ix3 (0 : Fin 1) (0 : Fin 1) l) := by
  unfold k5_pay331
  exact cast_16 v390 l

theorem k5_pay332_lane (v395 : Vec F S1x1x16 .f32) (l : Fin 16) :
    k5_pay332 v395 (ix1 l) = v395 (ix3 (0 : Fin 1) (0 : Fin 1) l) := by
  unfold k5_pay332
  exact cast_16 v395 l

theorem k5_pay333_lane (v400 : Vec F S1x1x16 .f32) (l : Fin 16) :
    k5_pay333 v400 (ix1 l) = v400 (ix3 (0 : Fin 1) (0 : Fin 1) l) := by
  unfold k5_pay333
  exact cast_16 v400 l

theorem k5_pay334_lane (v405 : Vec F S1x1x16 .f32) (l : Fin 16) :
    k5_pay334 v405 (ix1 l) = v405 (ix3 (0 : Fin 1) (0 : Fin 1) l) := by
  unfold k5_pay334
  exact cast_16 v405 l

theorem k5_pay335_lane (v410 : Vec F S1x1x16 .f32) (l : Fin 16) :
    k5_pay335 v410 (ix1 l) = v410 (ix3 (0 : Fin 1) (0 : Fin 1) l) := by
  unfold k5_pay335
  exact cast_16 v410 l

theorem k5_pay336_lane (v415 : Vec F S1x1x16 .f32) (l : Fin 16) :
    k5_pay336 v415 (ix1 l) = v415 (ix3 (0 : Fin 1) (0 : Fin 1) l) := by
  unfold k5_pay336
  exact cast_16 v415 l

theorem k5_pay337_lane (v420 : Vec F S1x1x16 .f32) (l : Fin 16) :
    k5_pay337 v420 (ix1 l) = v420 (ix3 (0 : Fin 1) (0 : Fin 1) l) := by
  unfold k5_pay337
  exact cast_16 v420 l

theorem k5_pay338_lane (v425 : Vec F S1x1x16 .f32) (l : Fin 16) :
    k5_pay338 v425 (ix1 l) = v425 (ix3 (0 : Fin 1) (0 : Fin 1) l) := by
  unfold k5_pay338
  exact cast_16 v425 l

theorem k5_pay339_lane (v430 : Vec F S1x1x16 .f32) (l : Fin 16) :
    k5_pay339 v430 (ix1 l) = v430 (ix3 (0 : Fin 1) (0 : Fin 1) l) := by
  unfold k5_pay339
  exact cast_16 v430 l

theorem k5_pay340_lane (v435 : Vec F S1x1x16 .f32) (l : Fin 16) :
    k5_pay340 v435 (ix1 l) = v435 (ix3 (0 : Fin 1) (0 : Fin 1) l) := by
  unfold k5_pay340
  exact cast_16 v435 l

theorem k5_pay341_lane (v440 : Vec F S1x1x16 .f32) (l : Fin 16) :
    k5_pay341 v440 (ix1 l) = v440 (ix3 (0 : Fin 1) (0 : Fin 1) l) := by
  unfold k5_pay341
  exact cast_16 v440 l

theorem k5_pay342_lane (v445 : Vec F S1x1x16 .f32) (l : Fin 16) :
    k5_pay342 v445 (ix1 l) = v445 (ix3 (0 : Fin 1) (0 : Fin 1) l) := by
  unfold k5_pay342
  exact cast_16 v445 l

theorem k5_pay343_lane (v450 : Vec F S1x1x16 .f32) (l : Fin 16) :
    k5_pay343 v450 (ix1 l) = v450 (ix3 (0 : Fin 1) (0 : Fin 1) l) := by
  unfold k5_pay343
  exact cast_16 v450 l

theorem k5_pay344_lane (v455 : Vec F S1x1x16 .f32) (l : Fin 16) :
    k5_pay344 v455 (ix1 l) = v455 (ix3 (0 : Fin 1) (0 : Fin 1) l) := by
  unfold k5_pay344
  exact cast_16 v455 l

theorem k5_pay345_lane (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (l : Fin 16) :
    k5_pay345 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = FloatOps.addf (FloatOps.addf (FloatOps.addf (FloatOps.addf (FloatOps.addf (v311 (ix1 l)) (v316 (ix1 l))) (FloatOps.addf (v321 (ix1 l)) (v326 (ix1 l)))) (FloatOps.addf (FloatOps.addf (v331 (ix1 l)) (v336 (ix1 l))) (FloatOps.addf (v341 (ix1 l)) (v346 (ix1 l))))) (FloatOps.addf (FloatOps.addf (FloatOps.addf (v351 (ix1 l)) (v356 (ix1 l))) (FloatOps.addf (v361 (ix1 l)) (v366 (ix1 l)))) (FloatOps.addf (FloatOps.addf (v371 (ix1 l)) (v376 (ix1 l))) (FloatOps.addf (v381 (ix1 l)) (v386 (ix1 l)))))) (FloatOps.addf (FloatOps.addf (FloatOps.addf (FloatOps.addf (v391 (ix1 l)) (v396 (ix1 l))) (FloatOps.addf (v401 (ix1 l)) (v406 (ix1 l)))) (FloatOps.addf (FloatOps.addf (v411 (ix1 l)) (v416 (ix1 l))) (FloatOps.addf (v421 (ix1 l)) (v426 (ix1 l))))) (FloatOps.addf (FloatOps.addf (FloatOps.addf (v431 (ix1 l)) (v436 (ix1 l))) (FloatOps.addf (v441 (ix1 l)) (v446 (ix1 l)))) (FloatOps.addf (FloatOps.addf (v451 (ix1 l)) (v456 (ix1 l))) (FloatOps.addf (v460 (ix3 (0 : Fin 1) (0 : Fin 1) l)) (v465 (ix3 (0 : Fin 1) (0 : Fin 1) l)))))) := by
  unfold k5_pay345
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v460 l) (cast_16 v465 l)))))

theorem k5_pay345_tree (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (w : Fin 32 → F .f32) (l : Fin 16)
    (h_v311 : v311 (ix1 l) = w 0)
    (h_v316 : v316 (ix1 l) = w 1)
    (h_v321 : v321 (ix1 l) = w 2)
    (h_v326 : v326 (ix1 l) = w 3)
    (h_v331 : v331 (ix1 l) = w 4)
    (h_v336 : v336 (ix1 l) = w 5)
    (h_v341 : v341 (ix1 l) = w 6)
    (h_v346 : v346 (ix1 l) = w 7)
    (h_v351 : v351 (ix1 l) = w 8)
    (h_v356 : v356 (ix1 l) = w 9)
    (h_v361 : v361 (ix1 l) = w 10)
    (h_v366 : v366 (ix1 l) = w 11)
    (h_v371 : v371 (ix1 l) = w 12)
    (h_v376 : v376 (ix1 l) = w 13)
    (h_v381 : v381 (ix1 l) = w 14)
    (h_v386 : v386 (ix1 l) = w 15)
    (h_v391 : v391 (ix1 l) = w 16)
    (h_v396 : v396 (ix1 l) = w 17)
    (h_v401 : v401 (ix1 l) = w 18)
    (h_v406 : v406 (ix1 l) = w 19)
    (h_v411 : v411 (ix1 l) = w 20)
    (h_v416 : v416 (ix1 l) = w 21)
    (h_v421 : v421 (ix1 l) = w 22)
    (h_v426 : v426 (ix1 l) = w 23)
    (h_v431 : v431 (ix1 l) = w 24)
    (h_v436 : v436 (ix1 l) = w 25)
    (h_v441 : v441 (ix1 l) = w 26)
    (h_v446 : v446 (ix1 l) = w 27)
    (h_v451 : v451 (ix1 l) = w 28)
    (h_v456 : v456 (ix1 l) = w 29)
    (h_v460 : v460 (ix3 (0 : Fin 1) (0 : Fin 1) l) = w 30)
    (h_v465 : v465 (ix3 (0 : Fin 1) (0 : Fin 1) l) = w 31) :
    k5_pay345 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = tree32 w := by
  unfold k5_pay345
  refine (cast_116 _ l).trans ?_
  exact congrArg₂ FloatOps.addf (congrArg₂ FloatOps.addf (congrArg₂ FloatOps.addf (congrArg₂ FloatOps.addf (congrArg₂ FloatOps.addf (h_v311) (h_v316)) (congrArg₂ FloatOps.addf (h_v321) (h_v326))) (congrArg₂ FloatOps.addf (congrArg₂ FloatOps.addf (h_v331) (h_v336)) (congrArg₂ FloatOps.addf (h_v341) (h_v346)))) (congrArg₂ FloatOps.addf (congrArg₂ FloatOps.addf (congrArg₂ FloatOps.addf (h_v351) (h_v356)) (congrArg₂ FloatOps.addf (h_v361) (h_v366))) (congrArg₂ FloatOps.addf (congrArg₂ FloatOps.addf (h_v371) (h_v376)) (congrArg₂ FloatOps.addf (h_v381) (h_v386))))) (congrArg₂ FloatOps.addf (congrArg₂ FloatOps.addf (congrArg₂ FloatOps.addf (congrArg₂ FloatOps.addf (h_v391) (h_v396)) (congrArg₂ FloatOps.addf (h_v401) (h_v406))) (congrArg₂ FloatOps.addf (congrArg₂ FloatOps.addf (h_v411) (h_v416)) (congrArg₂ FloatOps.addf (h_v421) (h_v426)))) (congrArg₂ FloatOps.addf (congrArg₂ FloatOps.addf (congrArg₂ FloatOps.addf (h_v431) (h_v436)) (congrArg₂ FloatOps.addf (h_v441) (h_v446))) (congrArg₂ FloatOps.addf (congrArg₂ FloatOps.addf (h_v451) (h_v456)) (congrArg₂ FloatOps.addf ((cast_16 v460 l).trans h_v460) ((cast_16 v465 l).trans h_v465)))))

theorem k5_pay346_lane (v506 : Vec F S1x1x16 .f32) (l : Fin 16) :
    k5_pay346 v506 (ix1 l) = v506 (ix3 (0 : Fin 1) (0 : Fin 1) l) := by
  unfold k5_pay346
  exact cast_16 v506 l

theorem k5_pay347_lane (v511 : Vec F S1x1x16 .f32) (l : Fin 16) :
    k5_pay347 v511 (ix1 l) = v511 (ix3 (0 : Fin 1) (0 : Fin 1) l) := by
  unfold k5_pay347
  exact cast_16 v511 l

theorem k5_pay348_lane (v516 : Vec F S1x1x16 .f32) (l : Fin 16) :
    k5_pay348 v516 (ix1 l) = v516 (ix3 (0 : Fin 1) (0 : Fin 1) l) := by
  unfold k5_pay348
  exact cast_16 v516 l

theorem k5_pay349_lane (v521 : Vec F S1x1x16 .f32) (l : Fin 16) :
    k5_pay349 v521 (ix1 l) = v521 (ix3 (0 : Fin 1) (0 : Fin 1) l) := by
  unfold k5_pay349
  exact cast_16 v521 l

theorem k5_pay350_lane (v526 : Vec F S1x1x16 .f32) (l : Fin 16) :
    k5_pay350 v526 (ix1 l) = v526 (ix3 (0 : Fin 1) (0 : Fin 1) l) := by
  unfold k5_pay350
  exact cast_16 v526 l

theorem k5_pay351_lane (v531 : Vec F S1x1x16 .f32) (l : Fin 16) :
    k5_pay351 v531 (ix1 l) = v531 (ix3 (0 : Fin 1) (0 : Fin 1) l) := by
  unfold k5_pay351
  exact cast_16 v531 l

theorem k5_pay352_lane (v536 : Vec F S1x1x16 .f32) (l : Fin 16) :
    k5_pay352 v536 (ix1 l) = v536 (ix3 (0 : Fin 1) (0 : Fin 1) l) := by
  unfold k5_pay352
  exact cast_16 v536 l

theorem k5_pay353_lane (v541 : Vec F S1x1x16 .f32) (l : Fin 16) :
    k5_pay353 v541 (ix1 l) = v541 (ix3 (0 : Fin 1) (0 : Fin 1) l) := by
  unfold k5_pay353
  exact cast_16 v541 l

theorem k5_pay354_lane (v546 : Vec F S1x1x16 .f32) (l : Fin 16) :
    k5_pay354 v546 (ix1 l) = v546 (ix3 (0 : Fin 1) (0 : Fin 1) l) := by
  unfold k5_pay354
  exact cast_16 v546 l

theorem k5_pay355_lane (v551 : Vec F S1x1x16 .f32) (l : Fin 16) :
    k5_pay355 v551 (ix1 l) = v551 (ix3 (0 : Fin 1) (0 : Fin 1) l) := by
  unfold k5_pay355
  exact cast_16 v551 l

theorem k5_pay356_lane (v556 : Vec F S1x1x16 .f32) (l : Fin 16) :
    k5_pay356 v556 (ix1 l) = v556 (ix3 (0 : Fin 1) (0 : Fin 1) l) := by
  unfold k5_pay356
  exact cast_16 v556 l

theorem k5_pay357_lane (v561 : Vec F S1x1x16 .f32) (l : Fin 16) :
    k5_pay357 v561 (ix1 l) = v561 (ix3 (0 : Fin 1) (0 : Fin 1) l) := by
  unfold k5_pay357
  exact cast_16 v561 l

theorem k5_pay358_lane (v566 : Vec F S1x1x16 .f32) (l : Fin 16) :
    k5_pay358 v566 (ix1 l) = v566 (ix3 (0 : Fin 1) (0 : Fin 1) l) := by
  unfold k5_pay358
  exact cast_16 v566 l

theorem k5_pay359_lane (v571 : Vec F S1x1x16 .f32) (l : Fin 16) :
    k5_pay359 v571 (ix1 l) = v571 (ix3 (0 : Fin 1) (0 : Fin 1) l) := by
  unfold k5_pay359
  exact cast_16 v571 l

theorem k5_pay360_lane (v576 : Vec F S1x1x16 .f32) (l : Fin 16) :
    k5_pay360 v576 (ix1 l) = v576 (ix3 (0 : Fin 1) (0 : Fin 1) l) := by
  unfold k5_pay360
  exact cast_16 v576 l

theorem k5_pay361_lane (v581 : Vec F S1x1x16 .f32) (l : Fin 16) :
    k5_pay361 v581 (ix1 l) = v581 (ix3 (0 : Fin 1) (0 : Fin 1) l) := by
  unfold k5_pay361
  exact cast_16 v581 l

theorem k5_pay362_lane (v586 : Vec F S1x1x16 .f32) (l : Fin 16) :
    k5_pay362 v586 (ix1 l) = v586 (ix3 (0 : Fin 1) (0 : Fin 1) l) := by
  unfold k5_pay362
  exact cast_16 v586 l

theorem k5_pay363_lane (v591 : Vec F S1x1x16 .f32) (l : Fin 16) :
    k5_pay363 v591 (ix1 l) = v591 (ix3 (0 : Fin 1) (0 : Fin 1) l) := by
  unfold k5_pay363
  exact cast_16 v591 l

theorem k5_pay364_lane (v596 : Vec F S1x1x16 .f32) (l : Fin 16) :
    k5_pay364 v596 (ix1 l) = v596 (ix3 (0 : Fin 1) (0 : Fin 1) l) := by
  unfold k5_pay364
  exact cast_16 v596 l

theorem k5_pay365_lane (v601 : Vec F S1x1x16 .f32) (l : Fin 16) :
    k5_pay365 v601 (ix1 l) = v601 (ix3 (0 : Fin 1) (0 : Fin 1) l) := by
  unfold k5_pay365
  exact cast_16 v601 l

theorem k5_pay366_lane (v606 : Vec F S1x1x16 .f32) (l : Fin 16) :
    k5_pay366 v606 (ix1 l) = v606 (ix3 (0 : Fin 1) (0 : Fin 1) l) := by
  unfold k5_pay366
  exact cast_16 v606 l

theorem k5_pay367_lane (v611 : Vec F S1x1x16 .f32) (l : Fin 16) :
    k5_pay367 v611 (ix1 l) = v611 (ix3 (0 : Fin 1) (0 : Fin 1) l) := by
  unfold k5_pay367
  exact cast_16 v611 l

theorem k5_pay368_lane (v616 : Vec F S1x1x16 .f32) (l : Fin 16) :
    k5_pay368 v616 (ix1 l) = v616 (ix3 (0 : Fin 1) (0 : Fin 1) l) := by
  unfold k5_pay368
  exact cast_16 v616 l

theorem k5_pay369_lane (v621 : Vec F S1x1x16 .f32) (l : Fin 16) :
    k5_pay369 v621 (ix1 l) = v621 (ix3 (0 : Fin 1) (0 : Fin 1) l) := by
  unfold k5_pay369
  exact cast_16 v621 l

theorem k5_pay370_lane (v626 : Vec F S1x1x16 .f32) (l : Fin 16) :
    k5_pay370 v626 (ix1 l) = v626 (ix3 (0 : Fin 1) (0 : Fin 1) l) := by
  unfold k5_pay370
  exact cast_16 v626 l

theorem k5_pay371_lane (v631 : Vec F S1x1x16 .f32) (l : Fin 16) :
    k5_pay371 v631 (ix1 l) = v631 (ix3 (0 : Fin 1) (0 : Fin 1) l) := by
  unfold k5_pay371
  exact cast_16 v631 l

theorem k5_pay372_lane (v636 : Vec F S1x1x16 .f32) (l : Fin 16) :
    k5_pay372 v636 (ix1 l) = v636 (ix3 (0 : Fin 1) (0 : Fin 1) l) := by
  unfold k5_pay372
  exact cast_16 v636 l

theorem k5_pay373_lane (v641 : Vec F S1x1x16 .f32) (l : Fin 16) :
    k5_pay373 v641 (ix1 l) = v641 (ix3 (0 : Fin 1) (0 : Fin 1) l) := by
  unfold k5_pay373
  exact cast_16 v641 l

theorem k5_pay374_lane (v646 : Vec F S1x1x16 .f32) (l : Fin 16) :
    k5_pay374 v646 (ix1 l) = v646 (ix3 (0 : Fin 1) (0 : Fin 1) l) := by
  unfold k5_pay374
  exact cast_16 v646 l

theorem k5_pay375_lane (v651 : Vec F S1x1x16 .f32) (l : Fin 16) :
    k5_pay375 v651 (ix1 l) = v651 (ix3 (0 : Fin 1) (0 : Fin 1) l) := by
  unfold k5_pay375
  exact cast_16 v651 l

theorem k5_pay376_lane (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (l : Fin 16) :
    k5_pay376 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = FloatOps.addf (FloatOps.addf (FloatOps.addf (FloatOps.addf (FloatOps.addf (v507 (ix1 l)) (v512 (ix1 l))) (FloatOps.addf (v517 (ix1 l)) (v522 (ix1 l)))) (FloatOps.addf (FloatOps.addf (v527 (ix1 l)) (v532 (ix1 l))) (FloatOps.addf (v537 (ix1 l)) (v542 (ix1 l))))) (FloatOps.addf (FloatOps.addf (FloatOps.addf (v547 (ix1 l)) (v552 (ix1 l))) (FloatOps.addf (v557 (ix1 l)) (v562 (ix1 l)))) (FloatOps.addf (FloatOps.addf (v567 (ix1 l)) (v572 (ix1 l))) (FloatOps.addf (v577 (ix1 l)) (v582 (ix1 l)))))) (FloatOps.addf (FloatOps.addf (FloatOps.addf (FloatOps.addf (v587 (ix1 l)) (v592 (ix1 l))) (FloatOps.addf (v597 (ix1 l)) (v602 (ix1 l)))) (FloatOps.addf (FloatOps.addf (v607 (ix1 l)) (v612 (ix1 l))) (FloatOps.addf (v617 (ix1 l)) (v622 (ix1 l))))) (FloatOps.addf (FloatOps.addf (FloatOps.addf (v627 (ix1 l)) (v632 (ix1 l))) (FloatOps.addf (v637 (ix1 l)) (v642 (ix1 l)))) (FloatOps.addf (FloatOps.addf (v647 (ix1 l)) (v652 (ix1 l))) (FloatOps.addf (v656 (ix3 (0 : Fin 1) (0 : Fin 1) l)) (v661 (ix3 (0 : Fin 1) (0 : Fin 1) l)))))) := by
  unfold k5_pay376
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v656 l) (cast_16 v661 l)))))

theorem k5_pay376_tree (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (w : Fin 32 → F .f32) (l : Fin 16)
    (h_v507 : v507 (ix1 l) = w 0)
    (h_v512 : v512 (ix1 l) = w 1)
    (h_v517 : v517 (ix1 l) = w 2)
    (h_v522 : v522 (ix1 l) = w 3)
    (h_v527 : v527 (ix1 l) = w 4)
    (h_v532 : v532 (ix1 l) = w 5)
    (h_v537 : v537 (ix1 l) = w 6)
    (h_v542 : v542 (ix1 l) = w 7)
    (h_v547 : v547 (ix1 l) = w 8)
    (h_v552 : v552 (ix1 l) = w 9)
    (h_v557 : v557 (ix1 l) = w 10)
    (h_v562 : v562 (ix1 l) = w 11)
    (h_v567 : v567 (ix1 l) = w 12)
    (h_v572 : v572 (ix1 l) = w 13)
    (h_v577 : v577 (ix1 l) = w 14)
    (h_v582 : v582 (ix1 l) = w 15)
    (h_v587 : v587 (ix1 l) = w 16)
    (h_v592 : v592 (ix1 l) = w 17)
    (h_v597 : v597 (ix1 l) = w 18)
    (h_v602 : v602 (ix1 l) = w 19)
    (h_v607 : v607 (ix1 l) = w 20)
    (h_v612 : v612 (ix1 l) = w 21)
    (h_v617 : v617 (ix1 l) = w 22)
    (h_v622 : v622 (ix1 l) = w 23)
    (h_v627 : v627 (ix1 l) = w 24)
    (h_v632 : v632 (ix1 l) = w 25)
    (h_v637 : v637 (ix1 l) = w 26)
    (h_v642 : v642 (ix1 l) = w 27)
    (h_v647 : v647 (ix1 l) = w 28)
    (h_v652 : v652 (ix1 l) = w 29)
    (h_v656 : v656 (ix3 (0 : Fin 1) (0 : Fin 1) l) = w 30)
    (h_v661 : v661 (ix3 (0 : Fin 1) (0 : Fin 1) l) = w 31) :
    k5_pay376 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = tree32 w := by
  unfold k5_pay376
  refine (cast_116 _ l).trans ?_
  exact congrArg₂ FloatOps.addf (congrArg₂ FloatOps.addf (congrArg₂ FloatOps.addf (congrArg₂ FloatOps.addf (congrArg₂ FloatOps.addf (h_v507) (h_v512)) (congrArg₂ FloatOps.addf (h_v517) (h_v522))) (congrArg₂ FloatOps.addf (congrArg₂ FloatOps.addf (h_v527) (h_v532)) (congrArg₂ FloatOps.addf (h_v537) (h_v542)))) (congrArg₂ FloatOps.addf (congrArg₂ FloatOps.addf (congrArg₂ FloatOps.addf (h_v547) (h_v552)) (congrArg₂ FloatOps.addf (h_v557) (h_v562))) (congrArg₂ FloatOps.addf (congrArg₂ FloatOps.addf (h_v567) (h_v572)) (congrArg₂ FloatOps.addf (h_v577) (h_v582))))) (congrArg₂ FloatOps.addf (congrArg₂ FloatOps.addf (congrArg₂ FloatOps.addf (congrArg₂ FloatOps.addf (h_v587) (h_v592)) (congrArg₂ FloatOps.addf (h_v597) (h_v602))) (congrArg₂ FloatOps.addf (congrArg₂ FloatOps.addf (h_v607) (h_v612)) (congrArg₂ FloatOps.addf (h_v617) (h_v622)))) (congrArg₂ FloatOps.addf (congrArg₂ FloatOps.addf (congrArg₂ FloatOps.addf (h_v627) (h_v632)) (congrArg₂ FloatOps.addf (h_v637) (h_v642))) (congrArg₂ FloatOps.addf (congrArg₂ FloatOps.addf (h_v647) (h_v652)) (congrArg₂ FloatOps.addf ((cast_16 v656 l).trans h_v656) ((cast_16 v661 l).trans h_v661)))))

theorem k5_pay377_lane (v702 : Vec F S1x1x16 .f32) (l : Fin 16) :
    k5_pay377 v702 (ix1 l) = v702 (ix3 (0 : Fin 1) (0 : Fin 1) l) := by
  unfold k5_pay377
  exact cast_16 v702 l

theorem k5_pay378_lane (v707 : Vec F S1x1x16 .f32) (l : Fin 16) :
    k5_pay378 v707 (ix1 l) = v707 (ix3 (0 : Fin 1) (0 : Fin 1) l) := by
  unfold k5_pay378
  exact cast_16 v707 l

theorem k5_pay379_lane (v712 : Vec F S1x1x16 .f32) (l : Fin 16) :
    k5_pay379 v712 (ix1 l) = v712 (ix3 (0 : Fin 1) (0 : Fin 1) l) := by
  unfold k5_pay379
  exact cast_16 v712 l

theorem k5_pay380_lane (v717 : Vec F S1x1x16 .f32) (l : Fin 16) :
    k5_pay380 v717 (ix1 l) = v717 (ix3 (0 : Fin 1) (0 : Fin 1) l) := by
  unfold k5_pay380
  exact cast_16 v717 l

theorem k5_pay381_lane (v722 : Vec F S1x1x16 .f32) (l : Fin 16) :
    k5_pay381 v722 (ix1 l) = v722 (ix3 (0 : Fin 1) (0 : Fin 1) l) := by
  unfold k5_pay381
  exact cast_16 v722 l

theorem k5_pay382_lane (v727 : Vec F S1x1x16 .f32) (l : Fin 16) :
    k5_pay382 v727 (ix1 l) = v727 (ix3 (0 : Fin 1) (0 : Fin 1) l) := by
  unfold k5_pay382
  exact cast_16 v727 l

theorem k5_pay383_lane (v732 : Vec F S1x1x16 .f32) (l : Fin 16) :
    k5_pay383 v732 (ix1 l) = v732 (ix3 (0 : Fin 1) (0 : Fin 1) l) := by
  unfold k5_pay383
  exact cast_16 v732 l

theorem k5_pay384_lane (v737 : Vec F S1x1x16 .f32) (l : Fin 16) :
    k5_pay384 v737 (ix1 l) = v737 (ix3 (0 : Fin 1) (0 : Fin 1) l) := by
  unfold k5_pay384
  exact cast_16 v737 l

theorem k5_pay385_lane (v742 : Vec F S1x1x16 .f32) (l : Fin 16) :
    k5_pay385 v742 (ix1 l) = v742 (ix3 (0 : Fin 1) (0 : Fin 1) l) := by
  unfold k5_pay385
  exact cast_16 v742 l

theorem k5_pay386_lane (v747 : Vec F S1x1x16 .f32) (l : Fin 16) :
    k5_pay386 v747 (ix1 l) = v747 (ix3 (0 : Fin 1) (0 : Fin 1) l) := by
  unfold k5_pay386
  exact cast_16 v747 l

theorem k5_pay387_lane (v752 : Vec F S1x1x16 .f32) (l : Fin 16) :
    k5_pay387 v752 (ix1 l) = v752 (ix3 (0 : Fin 1) (0 : Fin 1) l) := by
  unfold k5_pay387
  exact cast_16 v752 l

theorem k5_pay388_lane (v757 : Vec F S1x1x16 .f32) (l : Fin 16) :
    k5_pay388 v757 (ix1 l) = v757 (ix3 (0 : Fin 1) (0 : Fin 1) l) := by
  unfold k5_pay388
  exact cast_16 v757 l

theorem k5_pay389_lane (v762 : Vec F S1x1x16 .f32) (l : Fin 16) :
    k5_pay389 v762 (ix1 l) = v762 (ix3 (0 : Fin 1) (0 : Fin 1) l) := by
  unfold k5_pay389
  exact cast_16 v762 l

theorem k5_pay390_lane (v767 : Vec F S1x1x16 .f32) (l : Fin 16) :
    k5_pay390 v767 (ix1 l) = v767 (ix3 (0 : Fin 1) (0 : Fin 1) l) := by
  unfold k5_pay390
  exact cast_16 v767 l

theorem k5_pay391_lane (v772 : Vec F S1x1x16 .f32) (l : Fin 16) :
    k5_pay391 v772 (ix1 l) = v772 (ix3 (0 : Fin 1) (0 : Fin 1) l) := by
  unfold k5_pay391
  exact cast_16 v772 l

theorem k5_pay392_lane (v777 : Vec F S1x1x16 .f32) (l : Fin 16) :
    k5_pay392 v777 (ix1 l) = v777 (ix3 (0 : Fin 1) (0 : Fin 1) l) := by
  unfold k5_pay392
  exact cast_16 v777 l

theorem k5_pay393_lane (v782 : Vec F S1x1x16 .f32) (l : Fin 16) :
    k5_pay393 v782 (ix1 l) = v782 (ix3 (0 : Fin 1) (0 : Fin 1) l) := by
  unfold k5_pay393
  exact cast_16 v782 l

theorem k5_pay394_lane (v787 : Vec F S1x1x16 .f32) (l : Fin 16) :
    k5_pay394 v787 (ix1 l) = v787 (ix3 (0 : Fin 1) (0 : Fin 1) l) := by
  unfold k5_pay394
  exact cast_16 v787 l

theorem k5_pay395_lane (v792 : Vec F S1x1x16 .f32) (l : Fin 16) :
    k5_pay395 v792 (ix1 l) = v792 (ix3 (0 : Fin 1) (0 : Fin 1) l) := by
  unfold k5_pay395
  exact cast_16 v792 l

theorem k5_pay396_lane (v797 : Vec F S1x1x16 .f32) (l : Fin 16) :
    k5_pay396 v797 (ix1 l) = v797 (ix3 (0 : Fin 1) (0 : Fin 1) l) := by
  unfold k5_pay396
  exact cast_16 v797 l

theorem k5_pay397_lane (v802 : Vec F S1x1x16 .f32) (l : Fin 16) :
    k5_pay397 v802 (ix1 l) = v802 (ix3 (0 : Fin 1) (0 : Fin 1) l) := by
  unfold k5_pay397
  exact cast_16 v802 l

theorem k5_pay398_lane (v807 : Vec F S1x1x16 .f32) (l : Fin 16) :
    k5_pay398 v807 (ix1 l) = v807 (ix3 (0 : Fin 1) (0 : Fin 1) l) := by
  unfold k5_pay398
  exact cast_16 v807 l

theorem k5_pay399_lane (v812 : Vec F S1x1x16 .f32) (l : Fin 16) :
    k5_pay399 v812 (ix1 l) = v812 (ix3 (0 : Fin 1) (0 : Fin 1) l) := by
  unfold k5_pay399
  exact cast_16 v812 l

theorem k5_pay400_lane (v817 : Vec F S1x1x16 .f32) (l : Fin 16) :
    k5_pay400 v817 (ix1 l) = v817 (ix3 (0 : Fin 1) (0 : Fin 1) l) := by
  unfold k5_pay400
  exact cast_16 v817 l

theorem k5_pay401_lane (v822 : Vec F S1x1x16 .f32) (l : Fin 16) :
    k5_pay401 v822 (ix1 l) = v822 (ix3 (0 : Fin 1) (0 : Fin 1) l) := by
  unfold k5_pay401
  exact cast_16 v822 l

theorem k5_pay402_lane (v827 : Vec F S1x1x16 .f32) (l : Fin 16) :
    k5_pay402 v827 (ix1 l) = v827 (ix3 (0 : Fin 1) (0 : Fin 1) l) := by
  unfold k5_pay402
  exact cast_16 v827 l

theorem k5_pay403_lane (v832 : Vec F S1x1x16 .f32) (l : Fin 16) :
    k5_pay403 v832 (ix1 l) = v832 (ix3 (0 : Fin 1) (0 : Fin 1) l) := by
  unfold k5_pay403
  exact cast_16 v832 l

theorem k5_pay404_lane (v837 : Vec F S1x1x16 .f32) (l : Fin 16) :
    k5_pay404 v837 (ix1 l) = v837 (ix3 (0 : Fin 1) (0 : Fin 1) l) := by
  unfold k5_pay404
  exact cast_16 v837 l

theorem k5_pay405_lane (v842 : Vec F S1x1x16 .f32) (l : Fin 16) :
    k5_pay405 v842 (ix1 l) = v842 (ix3 (0 : Fin 1) (0 : Fin 1) l) := by
  unfold k5_pay405
  exact cast_16 v842 l

theorem k5_pay406_lane (v847 : Vec F S1x1x16 .f32) (l : Fin 16) :
    k5_pay406 v847 (ix1 l) = v847 (ix3 (0 : Fin 1) (0 : Fin 1) l) := by
  unfold k5_pay406
  exact cast_16 v847 l

theorem k5_pay407_lane (v852 : Vec F S1x1x16 .f32) (l : Fin 16) :
    k5_pay407 v852 (ix1 l) = v852 (ix3 (0 : Fin 1) (0 : Fin 1) l) := by
  unfold k5_pay407
  exact cast_16 v852 l

theorem k5_pay408_lane (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (l : Fin 16) :
    k5_pay408 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = FloatOps.addf (FloatOps.addf (FloatOps.addf (FloatOps.addf (FloatOps.addf (v703 (ix1 l)) (v708 (ix1 l))) (FloatOps.addf (v713 (ix1 l)) (v718 (ix1 l)))) (FloatOps.addf (FloatOps.addf (v723 (ix1 l)) (v728 (ix1 l))) (FloatOps.addf (v733 (ix1 l)) (v738 (ix1 l))))) (FloatOps.addf (FloatOps.addf (FloatOps.addf (v743 (ix1 l)) (v748 (ix1 l))) (FloatOps.addf (v753 (ix1 l)) (v758 (ix1 l)))) (FloatOps.addf (FloatOps.addf (v763 (ix1 l)) (v768 (ix1 l))) (FloatOps.addf (v773 (ix1 l)) (v778 (ix1 l)))))) (FloatOps.addf (FloatOps.addf (FloatOps.addf (FloatOps.addf (v783 (ix1 l)) (v788 (ix1 l))) (FloatOps.addf (v793 (ix1 l)) (v798 (ix1 l)))) (FloatOps.addf (FloatOps.addf (v803 (ix1 l)) (v808 (ix1 l))) (FloatOps.addf (v813 (ix1 l)) (v818 (ix1 l))))) (FloatOps.addf (FloatOps.addf (FloatOps.addf (v823 (ix1 l)) (v828 (ix1 l))) (FloatOps.addf (v833 (ix1 l)) (v838 (ix1 l)))) (FloatOps.addf (FloatOps.addf (v843 (ix1 l)) (v848 (ix1 l))) (FloatOps.addf (v853 (ix1 l)) (v857 (ix3 (0 : Fin 1) (0 : Fin 1) l)))))) := by
  unfold k5_pay408
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (cast_16 v857 l)))))

theorem k5_pay408_tree (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (w : Fin 32 → F .f32) (l : Fin 16)
    (h_v703 : v703 (ix1 l) = w 0)
    (h_v708 : v708 (ix1 l) = w 1)
    (h_v713 : v713 (ix1 l) = w 2)
    (h_v718 : v718 (ix1 l) = w 3)
    (h_v723 : v723 (ix1 l) = w 4)
    (h_v728 : v728 (ix1 l) = w 5)
    (h_v733 : v733 (ix1 l) = w 6)
    (h_v738 : v738 (ix1 l) = w 7)
    (h_v743 : v743 (ix1 l) = w 8)
    (h_v748 : v748 (ix1 l) = w 9)
    (h_v753 : v753 (ix1 l) = w 10)
    (h_v758 : v758 (ix1 l) = w 11)
    (h_v763 : v763 (ix1 l) = w 12)
    (h_v768 : v768 (ix1 l) = w 13)
    (h_v773 : v773 (ix1 l) = w 14)
    (h_v778 : v778 (ix1 l) = w 15)
    (h_v783 : v783 (ix1 l) = w 16)
    (h_v788 : v788 (ix1 l) = w 17)
    (h_v793 : v793 (ix1 l) = w 18)
    (h_v798 : v798 (ix1 l) = w 19)
    (h_v803 : v803 (ix1 l) = w 20)
    (h_v808 : v808 (ix1 l) = w 21)
    (h_v813 : v813 (ix1 l) = w 22)
    (h_v818 : v818 (ix1 l) = w 23)
    (h_v823 : v823 (ix1 l) = w 24)
    (h_v828 : v828 (ix1 l) = w 25)
    (h_v833 : v833 (ix1 l) = w 26)
    (h_v838 : v838 (ix1 l) = w 27)
    (h_v843 : v843 (ix1 l) = w 28)
    (h_v848 : v848 (ix1 l) = w 29)
    (h_v853 : v853 (ix1 l) = w 30)
    (h_v857 : v857 (ix3 (0 : Fin 1) (0 : Fin 1) l) = w 31) :
    k5_pay408 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = tree32 w := by
  unfold k5_pay408
  refine (cast_116 _ l).trans ?_
  exact congrArg₂ FloatOps.addf (congrArg₂ FloatOps.addf (congrArg₂ FloatOps.addf (congrArg₂ FloatOps.addf (congrArg₂ FloatOps.addf (h_v703) (h_v708)) (congrArg₂ FloatOps.addf (h_v713) (h_v718))) (congrArg₂ FloatOps.addf (congrArg₂ FloatOps.addf (h_v723) (h_v728)) (congrArg₂ FloatOps.addf (h_v733) (h_v738)))) (congrArg₂ FloatOps.addf (congrArg₂ FloatOps.addf (congrArg₂ FloatOps.addf (h_v743) (h_v748)) (congrArg₂ FloatOps.addf (h_v753) (h_v758))) (congrArg₂ FloatOps.addf (congrArg₂ FloatOps.addf (h_v763) (h_v768)) (congrArg₂ FloatOps.addf (h_v773) (h_v778))))) (congrArg₂ FloatOps.addf (congrArg₂ FloatOps.addf (congrArg₂ FloatOps.addf (congrArg₂ FloatOps.addf (h_v783) (h_v788)) (congrArg₂ FloatOps.addf (h_v793) (h_v798))) (congrArg₂ FloatOps.addf (congrArg₂ FloatOps.addf (h_v803) (h_v808)) (congrArg₂ FloatOps.addf (h_v813) (h_v818)))) (congrArg₂ FloatOps.addf (congrArg₂ FloatOps.addf (congrArg₂ FloatOps.addf (h_v823) (h_v828)) (congrArg₂ FloatOps.addf (h_v833) (h_v838))) (congrArg₂ FloatOps.addf (congrArg₂ FloatOps.addf (h_v843) (h_v848)) (congrArg₂ FloatOps.addf (h_v853) ((cast_16 v857 l).trans h_v857)))))

theorem k5_pay409_lane (v898 : Vec F S1x1x16 .f32) (l : Fin 16) :
    k5_pay409 v898 (ix1 l) = v898 (ix3 (0 : Fin 1) (0 : Fin 1) l) := by
  unfold k5_pay409
  exact cast_16 v898 l

theorem k5_pay410_lane (v903 : Vec F S1x1x16 .f32) (l : Fin 16) :
    k5_pay410 v903 (ix1 l) = v903 (ix3 (0 : Fin 1) (0 : Fin 1) l) := by
  unfold k5_pay410
  exact cast_16 v903 l

theorem k5_pay411_lane (v908 : Vec F S1x1x16 .f32) (l : Fin 16) :
    k5_pay411 v908 (ix1 l) = v908 (ix3 (0 : Fin 1) (0 : Fin 1) l) := by
  unfold k5_pay411
  exact cast_16 v908 l

theorem k5_pay412_lane (v913 : Vec F S1x1x16 .f32) (l : Fin 16) :
    k5_pay412 v913 (ix1 l) = v913 (ix3 (0 : Fin 1) (0 : Fin 1) l) := by
  unfold k5_pay412
  exact cast_16 v913 l

theorem k5_pay413_lane (v918 : Vec F S1x1x16 .f32) (l : Fin 16) :
    k5_pay413 v918 (ix1 l) = v918 (ix3 (0 : Fin 1) (0 : Fin 1) l) := by
  unfold k5_pay413
  exact cast_16 v918 l

theorem k5_pay414_lane (v923 : Vec F S1x1x16 .f32) (l : Fin 16) :
    k5_pay414 v923 (ix1 l) = v923 (ix3 (0 : Fin 1) (0 : Fin 1) l) := by
  unfold k5_pay414
  exact cast_16 v923 l

theorem k5_pay415_lane (v928 : Vec F S1x1x16 .f32) (l : Fin 16) :
    k5_pay415 v928 (ix1 l) = v928 (ix3 (0 : Fin 1) (0 : Fin 1) l) := by
  unfold k5_pay415
  exact cast_16 v928 l

theorem k5_pay416_lane (v933 : Vec F S1x1x16 .f32) (l : Fin 16) :
    k5_pay416 v933 (ix1 l) = v933 (ix3 (0 : Fin 1) (0 : Fin 1) l) := by
  unfold k5_pay416
  exact cast_16 v933 l

theorem k5_pay417_lane (v938 : Vec F S1x1x16 .f32) (l : Fin 16) :
    k5_pay417 v938 (ix1 l) = v938 (ix3 (0 : Fin 1) (0 : Fin 1) l) := by
  unfold k5_pay417
  exact cast_16 v938 l

theorem k5_pay418_lane (v943 : Vec F S1x1x16 .f32) (l : Fin 16) :
    k5_pay418 v943 (ix1 l) = v943 (ix3 (0 : Fin 1) (0 : Fin 1) l) := by
  unfold k5_pay418
  exact cast_16 v943 l

theorem k5_pay419_lane (v948 : Vec F S1x1x16 .f32) (l : Fin 16) :
    k5_pay419 v948 (ix1 l) = v948 (ix3 (0 : Fin 1) (0 : Fin 1) l) := by
  unfold k5_pay419
  exact cast_16 v948 l

theorem k5_pay420_lane (v953 : Vec F S1x1x16 .f32) (l : Fin 16) :
    k5_pay420 v953 (ix1 l) = v953 (ix3 (0 : Fin 1) (0 : Fin 1) l) := by
  unfold k5_pay420
  exact cast_16 v953 l

theorem k5_pay421_lane (v958 : Vec F S1x1x16 .f32) (l : Fin 16) :
    k5_pay421 v958 (ix1 l) = v958 (ix3 (0 : Fin 1) (0 : Fin 1) l) := by
  unfold k5_pay421
  exact cast_16 v958 l

theorem k5_pay422_lane (v963 : Vec F S1x1x16 .f32) (l : Fin 16) :
    k5_pay422 v963 (ix1 l) = v963 (ix3 (0 : Fin 1) (0 : Fin 1) l) := by
  unfold k5_pay422
  exact cast_16 v963 l

theorem k5_pay423_lane (v968 : Vec F S1x1x16 .f32) (l : Fin 16) :
    k5_pay423 v968 (ix1 l) = v968 (ix3 (0 : Fin 1) (0 : Fin 1) l) := by
  unfold k5_pay423
  exact cast_16 v968 l

theorem k5_pay424_lane (v973 : Vec F S1x1x16 .f32) (l : Fin 16) :
    k5_pay424 v973 (ix1 l) = v973 (ix3 (0 : Fin 1) (0 : Fin 1) l) := by
  unfold k5_pay424
  exact cast_16 v973 l

theorem k5_pay425_lane (v978 : Vec F S1x1x16 .f32) (l : Fin 16) :
    k5_pay425 v978 (ix1 l) = v978 (ix3 (0 : Fin 1) (0 : Fin 1) l) := by
  unfold k5_pay425
  exact cast_16 v978 l

theorem k5_pay426_lane (v983 : Vec F S1x1x16 .f32) (l : Fin 16) :
    k5_pay426 v983 (ix1 l) = v983 (ix3 (0 : Fin 1) (0 : Fin 1) l) := by
  unfold k5_pay426
  exact cast_16 v983 l

theorem k5_pay427_lane (v988 : Vec F S1x1x16 .f32) (l : Fin 16) :
    k5_pay427 v988 (ix1 l) = v988 (ix3 (0 : Fin 1) (0 : Fin 1) l) := by
  unfold k5_pay427
  exact cast_16 v988 l

theorem k5_pay428_lane (v993 : Vec F S1x1x16 .f32) (l : Fin 16) :
    k5_pay428 v993 (ix1 l) = v993 (ix3 (0 : Fin 1) (0 : Fin 1) l) := by
  unfold k5_pay428
  exact cast_16 v993 l

theorem k5_pay429_lane (v998 : Vec F S1x1x16 .f32) (l : Fin 16) :
    k5_pay429 v998 (ix1 l) = v998 (ix3 (0 : Fin 1) (0 : Fin 1) l) := by
  unfold k5_pay429
  exact cast_16 v998 l

theorem k5_pay430_lane (v1003 : Vec F S1x1x16 .f32) (l : Fin 16) :
    k5_pay430 v1003 (ix1 l) = v1003 (ix3 (0 : Fin 1) (0 : Fin 1) l) := by
  unfold k5_pay430
  exact cast_16 v1003 l

theorem k5_pay431_lane (v1008 : Vec F S1x1x16 .f32) (l : Fin 16) :
    k5_pay431 v1008 (ix1 l) = v1008 (ix3 (0 : Fin 1) (0 : Fin 1) l) := by
  unfold k5_pay431
  exact cast_16 v1008 l

theorem k5_pay432_lane (v1013 : Vec F S1x1x16 .f32) (l : Fin 16) :
    k5_pay432 v1013 (ix1 l) = v1013 (ix3 (0 : Fin 1) (0 : Fin 1) l) := by
  unfold k5_pay432
  exact cast_16 v1013 l

theorem k5_pay433_lane (v1018 : Vec F S1x1x16 .f32) (l : Fin 16) :
    k5_pay433 v1018 (ix1 l) = v1018 (ix3 (0 : Fin 1) (0 : Fin 1) l) := by
  unfold k5_pay433
  exact cast_16 v1018 l

theorem k5_pay434_lane (v1023 : Vec F S1x1x16 .f32) (l : Fin 16) :
    k5_pay434 v1023 (ix1 l) = v1023 (ix3 (0 : Fin 1) (0 : Fin 1) l) := by
  unfold k5_pay434
  exact cast_16 v1023 l

theorem k5_pay435_lane (v1028 : Vec F S1x1x16 .f32) (l : Fin 16) :
    k5_pay435 v1028 (ix1 l) = v1028 (ix3 (0 : Fin 1) (0 : Fin 1) l) := by
  unfold k5_pay435
  exact cast_16 v1028 l

theorem k5_pay436_lane (v1033 : Vec F S1x1x16 .f32) (l : Fin 16) :
    k5_pay436 v1033 (ix1 l) = v1033 (ix3 (0 : Fin 1) (0 : Fin 1) l) := by
  unfold k5_pay436
  exact cast_16 v1033 l

theorem k5_pay437_lane (v1038 : Vec F S1x1x16 .f32) (l : Fin 16) :
    k5_pay437 v1038 (ix1 l) = v1038 (ix3 (0 : Fin 1) (0 : Fin 1) l) := by
  unfold k5_pay437
  exact cast_16 v1038 l

theorem k5_pay438_lane (v1043 : Vec F S1x1x16 .f32) (l : Fin 16) :
    k5_pay438 v1043 (ix1 l) = v1043 (ix3 (0 : Fin 1) (0 : Fin 1) l) := by
  unfold k5_pay438
  exact cast_16 v1043 l

theorem k5_pay439_lane (v1048 : Vec F S1x1x16 .f32) (l : Fin 16) :
    k5_pay439 v1048 (ix1 l) = v1048 (ix3 (0 : Fin 1) (0 : Fin 1) l) := by
  unfold k5_pay439
  exact cast_16 v1048 l

theorem k5_pay440_lane (v1053 : Vec F S1x1x16 .f32) (l : Fin 16) :
    k5_pay440 v1053 (ix1 l) = v1053 (ix3 (0 : Fin 1) (0 : Fin 1) l) := by
  unfold k5_pay440
  exact cast_16 v1053 l

theorem k5_pay441_lane (v899 : FVec F S16 .f32) (v904 : FVec F S16 .f32) (l : Fin 16) :
    k5_pay441 v899 v904 (ix1 l) = FloatOps.addf (v899 (ix1 l)) (v904 (ix1 l)) := by
  unfold k5_pay441
  exact congrArg₂ FloatOps.addf (rfl) (rfl)

theorem k5_pay442_lane (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (l : Fin 16) :
    k5_pay442 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = FloatOps.addf (FloatOps.addf (FloatOps.addf (FloatOps.addf (v1055 (ix1 l)) (FloatOps.addf (v909 (ix1 l)) (v914 (ix1 l)))) (FloatOps.addf (FloatOps.addf (v919 (ix1 l)) (v924 (ix1 l))) (FloatOps.addf (v929 (ix1 l)) (v934 (ix1 l))))) (FloatOps.addf (FloatOps.addf (FloatOps.addf (v939 (ix1 l)) (v944 (ix1 l))) (FloatOps.addf (v949 (ix1 l)) (v954 (ix1 l)))) (FloatOps.addf (FloatOps.addf (v959 (ix1 l)) (v964 (ix1 l))) (FloatOps.addf (v969 (ix1 l)) (v974 (ix1 l)))))) (FloatOps.addf (FloatOps.addf (FloatOps.addf (FloatOps.addf (v979 (ix1 l)) (v984 (ix1 l))) (FloatOps.addf (v989 (ix1 l)) (v994 (ix1 l)))) (FloatOps.addf (FloatOps.addf (v999 (ix1 l)) (v1004 (ix1 l))) (FloatOps.addf (v1009 (ix1 l)) (v1014 (ix1 l))))) (FloatOps.addf (FloatOps.addf (FloatOps.addf (v1019 (ix1 l)) (v1024 (ix1 l))) (FloatOps.addf (v1029 (ix1 l)) (v1034 (ix1 l)))) (FloatOps.addf (FloatOps.addf (v1039 (ix1 l)) (v1044 (ix1 l))) (FloatOps.addf (v1049 (ix1 l)) (v1054 (ix1 l)))))) := by
  unfold k5_pay442
  refine (cast_116 _ l).trans ?_
  exact congrArg₂ FloatOps.addf (congrArg₂ FloatOps.addf (congrArg₂ FloatOps.addf (congrArg₂ FloatOps.addf (rfl) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k5_pay442_tree (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (w : Fin 32 → F .f32) (l : Fin 16)
    (h_v1055 : v1055 (ix1 l) = FloatOps.addf (w 0) (w 1))
    (h_v909 : v909 (ix1 l) = w 2)
    (h_v914 : v914 (ix1 l) = w 3)
    (h_v919 : v919 (ix1 l) = w 4)
    (h_v924 : v924 (ix1 l) = w 5)
    (h_v929 : v929 (ix1 l) = w 6)
    (h_v934 : v934 (ix1 l) = w 7)
    (h_v939 : v939 (ix1 l) = w 8)
    (h_v944 : v944 (ix1 l) = w 9)
    (h_v949 : v949 (ix1 l) = w 10)
    (h_v954 : v954 (ix1 l) = w 11)
    (h_v959 : v959 (ix1 l) = w 12)
    (h_v964 : v964 (ix1 l) = w 13)
    (h_v969 : v969 (ix1 l) = w 14)
    (h_v974 : v974 (ix1 l) = w 15)
    (h_v979 : v979 (ix1 l) = w 16)
    (h_v984 : v984 (ix1 l) = w 17)
    (h_v989 : v989 (ix1 l) = w 18)
    (h_v994 : v994 (ix1 l) = w 19)
    (h_v999 : v999 (ix1 l) = w 20)
    (h_v1004 : v1004 (ix1 l) = w 21)
    (h_v1009 : v1009 (ix1 l) = w 22)
    (h_v1014 : v1014 (ix1 l) = w 23)
    (h_v1019 : v1019 (ix1 l) = w 24)
    (h_v1024 : v1024 (ix1 l) = w 25)
    (h_v1029 : v1029 (ix1 l) = w 26)
    (h_v1034 : v1034 (ix1 l) = w 27)
    (h_v1039 : v1039 (ix1 l) = w 28)
    (h_v1044 : v1044 (ix1 l) = w 29)
    (h_v1049 : v1049 (ix1 l) = w 30)
    (h_v1054 : v1054 (ix1 l) = w 31) :
    k5_pay442 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = tree32 w := by
  unfold k5_pay442
  refine (cast_116 _ l).trans ?_
  exact congrArg₂ FloatOps.addf (congrArg₂ FloatOps.addf (congrArg₂ FloatOps.addf (congrArg₂ FloatOps.addf (h_v1055) (congrArg₂ FloatOps.addf (h_v909) (h_v914))) (congrArg₂ FloatOps.addf (congrArg₂ FloatOps.addf (h_v919) (h_v924)) (congrArg₂ FloatOps.addf (h_v929) (h_v934)))) (congrArg₂ FloatOps.addf (congrArg₂ FloatOps.addf (congrArg₂ FloatOps.addf (h_v939) (h_v944)) (congrArg₂ FloatOps.addf (h_v949) (h_v954))) (congrArg₂ FloatOps.addf (congrArg₂ FloatOps.addf (h_v959) (h_v964)) (congrArg₂ FloatOps.addf (h_v969) (h_v974))))) (congrArg₂ FloatOps.addf (congrArg₂ FloatOps.addf (congrArg₂ FloatOps.addf (congrArg₂ FloatOps.addf (h_v979) (h_v984)) (congrArg₂ FloatOps.addf (h_v989) (h_v994))) (congrArg₂ FloatOps.addf (congrArg₂ FloatOps.addf (h_v999) (h_v1004)) (congrArg₂ FloatOps.addf (h_v1009) (h_v1014)))) (congrArg₂ FloatOps.addf (congrArg₂ FloatOps.addf (congrArg₂ FloatOps.addf (h_v1019) (h_v1024)) (congrArg₂ FloatOps.addf (h_v1029) (h_v1034))) (congrArg₂ FloatOps.addf (congrArg₂ FloatOps.addf (h_v1039) (h_v1044)) (congrArg₂ FloatOps.addf (h_v1049) (h_v1054)))))

theorem k5_pay443_lane (v1094 : Vec F S1x1x16 .f32) (l : Fin 16) :
    k5_pay443 v1094 (ix1 l) = v1094 (ix3 (0 : Fin 1) (0 : Fin 1) l) := by
  unfold k5_pay443
  exact cast_16 v1094 l

theorem k5_pay444_lane (v1099 : Vec F S1x1x16 .f32) (l : Fin 16) :
    k5_pay444 v1099 (ix1 l) = v1099 (ix3 (0 : Fin 1) (0 : Fin 1) l) := by
  unfold k5_pay444
  exact cast_16 v1099 l

theorem k5_pay445_lane (v1104 : Vec F S1x1x16 .f32) (l : Fin 16) :
    k5_pay445 v1104 (ix1 l) = v1104 (ix3 (0 : Fin 1) (0 : Fin 1) l) := by
  unfold k5_pay445
  exact cast_16 v1104 l

theorem k5_pay446_lane (v1109 : Vec F S1x1x16 .f32) (l : Fin 16) :
    k5_pay446 v1109 (ix1 l) = v1109 (ix3 (0 : Fin 1) (0 : Fin 1) l) := by
  unfold k5_pay446
  exact cast_16 v1109 l

theorem k5_pay447_lane (v1114 : Vec F S1x1x16 .f32) (l : Fin 16) :
    k5_pay447 v1114 (ix1 l) = v1114 (ix3 (0 : Fin 1) (0 : Fin 1) l) := by
  unfold k5_pay447
  exact cast_16 v1114 l

theorem k5_pay448_lane (v1119 : Vec F S1x1x16 .f32) (l : Fin 16) :
    k5_pay448 v1119 (ix1 l) = v1119 (ix3 (0 : Fin 1) (0 : Fin 1) l) := by
  unfold k5_pay448
  exact cast_16 v1119 l

theorem k5_pay449_lane (v1124 : Vec F S1x1x16 .f32) (l : Fin 16) :
    k5_pay449 v1124 (ix1 l) = v1124 (ix3 (0 : Fin 1) (0 : Fin 1) l) := by
  unfold k5_pay449
  exact cast_16 v1124 l

theorem k5_pay450_lane (v1129 : Vec F S1x1x16 .f32) (l : Fin 16) :
    k5_pay450 v1129 (ix1 l) = v1129 (ix3 (0 : Fin 1) (0 : Fin 1) l) := by
  unfold k5_pay450
  exact cast_16 v1129 l

theorem k5_pay451_lane (v1134 : Vec F S1x1x16 .f32) (l : Fin 16) :
    k5_pay451 v1134 (ix1 l) = v1134 (ix3 (0 : Fin 1) (0 : Fin 1) l) := by
  unfold k5_pay451
  exact cast_16 v1134 l

theorem k5_pay452_lane (v1139 : Vec F S1x1x16 .f32) (l : Fin 16) :
    k5_pay452 v1139 (ix1 l) = v1139 (ix3 (0 : Fin 1) (0 : Fin 1) l) := by
  unfold k5_pay452
  exact cast_16 v1139 l

theorem k5_pay453_lane (v1144 : Vec F S1x1x16 .f32) (l : Fin 16) :
    k5_pay453 v1144 (ix1 l) = v1144 (ix3 (0 : Fin 1) (0 : Fin 1) l) := by
  unfold k5_pay453
  exact cast_16 v1144 l

theorem k5_pay454_lane (v1149 : Vec F S1x1x16 .f32) (l : Fin 16) :
    k5_pay454 v1149 (ix1 l) = v1149 (ix3 (0 : Fin 1) (0 : Fin 1) l) := by
  unfold k5_pay454
  exact cast_16 v1149 l

theorem k5_pay455_lane (v1154 : Vec F S1x1x16 .f32) (l : Fin 16) :
    k5_pay455 v1154 (ix1 l) = v1154 (ix3 (0 : Fin 1) (0 : Fin 1) l) := by
  unfold k5_pay455
  exact cast_16 v1154 l

theorem k5_pay456_lane (v1159 : Vec F S1x1x16 .f32) (l : Fin 16) :
    k5_pay456 v1159 (ix1 l) = v1159 (ix3 (0 : Fin 1) (0 : Fin 1) l) := by
  unfold k5_pay456
  exact cast_16 v1159 l

theorem k5_pay457_lane (v1164 : Vec F S1x1x16 .f32) (l : Fin 16) :
    k5_pay457 v1164 (ix1 l) = v1164 (ix3 (0 : Fin 1) (0 : Fin 1) l) := by
  unfold k5_pay457
  exact cast_16 v1164 l

theorem k5_pay458_lane (v1169 : Vec F S1x1x16 .f32) (l : Fin 16) :
    k5_pay458 v1169 (ix1 l) = v1169 (ix3 (0 : Fin 1) (0 : Fin 1) l) := by
  unfold k5_pay458
  exact cast_16 v1169 l

theorem k5_pay459_lane (v1174 : Vec F S1x1x16 .f32) (l : Fin 16) :
    k5_pay459 v1174 (ix1 l) = v1174 (ix3 (0 : Fin 1) (0 : Fin 1) l) := by
  unfold k5_pay459
  exact cast_16 v1174 l

theorem k5_pay460_lane (v1179 : Vec F S1x1x16 .f32) (l : Fin 16) :
    k5_pay460 v1179 (ix1 l) = v1179 (ix3 (0 : Fin 1) (0 : Fin 1) l) := by
  unfold k5_pay460
  exact cast_16 v1179 l

theorem k5_pay461_lane (v1184 : Vec F S1x1x16 .f32) (l : Fin 16) :
    k5_pay461 v1184 (ix1 l) = v1184 (ix3 (0 : Fin 1) (0 : Fin 1) l) := by
  unfold k5_pay461
  exact cast_16 v1184 l

theorem k5_pay462_lane (v1189 : Vec F S1x1x16 .f32) (l : Fin 16) :
    k5_pay462 v1189 (ix1 l) = v1189 (ix3 (0 : Fin 1) (0 : Fin 1) l) := by
  unfold k5_pay462
  exact cast_16 v1189 l

theorem k5_pay463_lane (v1194 : Vec F S1x1x16 .f32) (l : Fin 16) :
    k5_pay463 v1194 (ix1 l) = v1194 (ix3 (0 : Fin 1) (0 : Fin 1) l) := by
  unfold k5_pay463
  exact cast_16 v1194 l

theorem k5_pay464_lane (v1199 : Vec F S1x1x16 .f32) (l : Fin 16) :
    k5_pay464 v1199 (ix1 l) = v1199 (ix3 (0 : Fin 1) (0 : Fin 1) l) := by
  unfold k5_pay464
  exact cast_16 v1199 l

theorem k5_pay465_lane (v1204 : Vec F S1x1x16 .f32) (l : Fin 16) :
    k5_pay465 v1204 (ix1 l) = v1204 (ix3 (0 : Fin 1) (0 : Fin 1) l) := by
  unfold k5_pay465
  exact cast_16 v1204 l

theorem k5_pay466_lane (v1209 : Vec F S1x1x16 .f32) (l : Fin 16) :
    k5_pay466 v1209 (ix1 l) = v1209 (ix3 (0 : Fin 1) (0 : Fin 1) l) := by
  unfold k5_pay466
  exact cast_16 v1209 l

theorem k5_pay467_lane (v1214 : Vec F S1x1x16 .f32) (l : Fin 16) :
    k5_pay467 v1214 (ix1 l) = v1214 (ix3 (0 : Fin 1) (0 : Fin 1) l) := by
  unfold k5_pay467
  exact cast_16 v1214 l

theorem k5_pay468_lane (v1219 : Vec F S1x1x16 .f32) (l : Fin 16) :
    k5_pay468 v1219 (ix1 l) = v1219 (ix3 (0 : Fin 1) (0 : Fin 1) l) := by
  unfold k5_pay468
  exact cast_16 v1219 l

theorem k5_pay469_lane (v1224 : Vec F S1x1x16 .f32) (l : Fin 16) :
    k5_pay469 v1224 (ix1 l) = v1224 (ix3 (0 : Fin 1) (0 : Fin 1) l) := by
  unfold k5_pay469
  exact cast_16 v1224 l

theorem k5_pay470_lane (v1229 : Vec F S1x1x16 .f32) (l : Fin 16) :
    k5_pay470 v1229 (ix1 l) = v1229 (ix3 (0 : Fin 1) (0 : Fin 1) l) := by
  unfold k5_pay470
  exact cast_16 v1229 l

theorem k5_pay471_lane (v1234 : Vec F S1x1x16 .f32) (l : Fin 16) :
    k5_pay471 v1234 (ix1 l) = v1234 (ix3 (0 : Fin 1) (0 : Fin 1) l) := by
  unfold k5_pay471
  exact cast_16 v1234 l

theorem k5_pay472_lane (v1239 : Vec F S1x1x16 .f32) (l : Fin 16) :
    k5_pay472 v1239 (ix1 l) = v1239 (ix3 (0 : Fin 1) (0 : Fin 1) l) := by
  unfold k5_pay472
  exact cast_16 v1239 l

theorem k5_pay473_lane (v1244 : Vec F S1x1x16 .f32) (l : Fin 16) :
    k5_pay473 v1244 (ix1 l) = v1244 (ix3 (0 : Fin 1) (0 : Fin 1) l) := by
  unfold k5_pay473
  exact cast_16 v1244 l

theorem k5_pay474_lane (v1249 : Vec F S1x1x16 .f32) (l : Fin 16) :
    k5_pay474 v1249 (ix1 l) = v1249 (ix3 (0 : Fin 1) (0 : Fin 1) l) := by
  unfold k5_pay474
  exact cast_16 v1249 l

theorem k5_pay475_lane (v1095 : FVec F S16 .f32) (v1100 : FVec F S16 .f32) (l : Fin 16) :
    k5_pay475 v1095 v1100 (ix1 l) = FloatOps.addf (v1095 (ix1 l)) (v1100 (ix1 l)) := by
  unfold k5_pay475
  exact congrArg₂ FloatOps.addf (rfl) (rfl)

theorem k5_pay476_lane (v1105 : FVec F S16 .f32) (v1110 : FVec F S16 .f32) (l : Fin 16) :
    k5_pay476 v1105 v1110 (ix1 l) = FloatOps.addf (v1105 (ix1 l)) (v1110 (ix1 l)) := by
  unfold k5_pay476
  exact congrArg₂ FloatOps.addf (rfl) (rfl)

theorem k5_pay477_lane (v1115 : FVec F S16 .f32) (v1120 : FVec F S16 .f32) (l : Fin 16) :
    k5_pay477 v1115 v1120 (ix1 l) = FloatOps.addf (v1115 (ix1 l)) (v1120 (ix1 l)) := by
  unfold k5_pay477
  exact congrArg₂ FloatOps.addf (rfl) (rfl)

theorem k5_pay478_lane (v1125 : FVec F S16 .f32) (v1130 : FVec F S16 .f32) (l : Fin 16) :
    k5_pay478 v1125 v1130 (ix1 l) = FloatOps.addf (v1125 (ix1 l)) (v1130 (ix1 l)) := by
  unfold k5_pay478
  exact congrArg₂ FloatOps.addf (rfl) (rfl)

theorem k5_pay479_lane (v1135 : FVec F S16 .f32) (v1140 : FVec F S16 .f32) (l : Fin 16) :
    k5_pay479 v1135 v1140 (ix1 l) = FloatOps.addf (v1135 (ix1 l)) (v1140 (ix1 l)) := by
  unfold k5_pay479
  exact congrArg₂ FloatOps.addf (rfl) (rfl)

theorem k5_pay480_lane (v1145 : FVec F S16 .f32) (v1150 : FVec F S16 .f32) (l : Fin 16) :
    k5_pay480 v1145 v1150 (ix1 l) = FloatOps.addf (v1145 (ix1 l)) (v1150 (ix1 l)) := by
  unfold k5_pay480
  exact congrArg₂ FloatOps.addf (rfl) (rfl)

theorem k5_pay481_lane (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (l : Fin 16) :
    k5_pay481 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = FloatOps.addf (FloatOps.addf (FloatOps.addf (FloatOps.addf (v1251 (ix1 l)) (v1252 (ix1 l))) (FloatOps.addf (v1253 (ix1 l)) (v1254 (ix1 l)))) (FloatOps.addf (FloatOps.addf (v1255 (ix1 l)) (v1256 (ix1 l))) (FloatOps.addf (FloatOps.addf (v1155 (ix1 l)) (v1160 (ix1 l))) (FloatOps.addf (v1165 (ix1 l)) (v1170 (ix1 l)))))) (FloatOps.addf (FloatOps.addf (FloatOps.addf (FloatOps.addf (v1175 (ix1 l)) (v1180 (ix1 l))) (FloatOps.addf (v1185 (ix1 l)) (v1190 (ix1 l)))) (FloatOps.addf (FloatOps.addf (v1195 (ix1 l)) (v1200 (ix1 l))) (FloatOps.addf (v1205 (ix1 l)) (v1210 (ix1 l))))) (FloatOps.addf (FloatOps.addf (FloatOps.addf (v1215 (ix1 l)) (v1220 (ix1 l))) (FloatOps.addf (v1225 (ix1 l)) (v1230 (ix1 l)))) (FloatOps.addf (FloatOps.addf (v1235 (ix1 l)) (v1240 (ix1 l))) (FloatOps.addf (v1245 (ix1 l)) (v1250 (ix1 l)))))) := by
  unfold k5_pay481
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k5_pay481_tree (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (w : Fin 32 → F .f32) (l : Fin 16)
    (h_v1251 : v1251 (ix1 l) = FloatOps.addf (w 0) (w 1))
    (h_v1252 : v1252 (ix1 l) = FloatOps.addf (w 2) (w 3))
    (h_v1253 : v1253 (ix1 l) = FloatOps.addf (w 4) (w 5))
    (h_v1254 : v1254 (ix1 l) = FloatOps.addf (w 6) (w 7))
    (h_v1255 : v1255 (ix1 l) = FloatOps.addf (w 8) (w 9))
    (h_v1256 : v1256 (ix1 l) = FloatOps.addf (w 10) (w 11))
    (h_v1155 : v1155 (ix1 l) = w 12)
    (h_v1160 : v1160 (ix1 l) = w 13)
    (h_v1165 : v1165 (ix1 l) = w 14)
    (h_v1170 : v1170 (ix1 l) = w 15)
    (h_v1175 : v1175 (ix1 l) = w 16)
    (h_v1180 : v1180 (ix1 l) = w 17)
    (h_v1185 : v1185 (ix1 l) = w 18)
    (h_v1190 : v1190 (ix1 l) = w 19)
    (h_v1195 : v1195 (ix1 l) = w 20)
    (h_v1200 : v1200 (ix1 l) = w 21)
    (h_v1205 : v1205 (ix1 l) = w 22)
    (h_v1210 : v1210 (ix1 l) = w 23)
    (h_v1215 : v1215 (ix1 l) = w 24)
    (h_v1220 : v1220 (ix1 l) = w 25)
    (h_v1225 : v1225 (ix1 l) = w 26)
    (h_v1230 : v1230 (ix1 l) = w 27)
    (h_v1235 : v1235 (ix1 l) = w 28)
    (h_v1240 : v1240 (ix1 l) = w 29)
    (h_v1245 : v1245 (ix1 l) = w 30)
    (h_v1250 : v1250 (ix1 l) = w 31) :
    k5_pay481 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = tree32 w := by
  unfold k5_pay481
  refine (cast_116 _ l).trans ?_
  exact congrArg₂ FloatOps.addf (congrArg₂ FloatOps.addf (congrArg₂ FloatOps.addf (congrArg₂ FloatOps.addf (h_v1251) (h_v1252)) (congrArg₂ FloatOps.addf (h_v1253) (h_v1254))) (congrArg₂ FloatOps.addf (congrArg₂ FloatOps.addf (h_v1255) (h_v1256)) (congrArg₂ FloatOps.addf (congrArg₂ FloatOps.addf (h_v1155) (h_v1160)) (congrArg₂ FloatOps.addf (h_v1165) (h_v1170))))) (congrArg₂ FloatOps.addf (congrArg₂ FloatOps.addf (congrArg₂ FloatOps.addf (congrArg₂ FloatOps.addf (h_v1175) (h_v1180)) (congrArg₂ FloatOps.addf (h_v1185) (h_v1190))) (congrArg₂ FloatOps.addf (congrArg₂ FloatOps.addf (h_v1195) (h_v1200)) (congrArg₂ FloatOps.addf (h_v1205) (h_v1210)))) (congrArg₂ FloatOps.addf (congrArg₂ FloatOps.addf (congrArg₂ FloatOps.addf (h_v1215) (h_v1220)) (congrArg₂ FloatOps.addf (h_v1225) (h_v1230))) (congrArg₂ FloatOps.addf (congrArg₂ FloatOps.addf (h_v1235) (h_v1240)) (congrArg₂ FloatOps.addf (h_v1245) (h_v1250)))))

theorem k5_pay482_lane (v1290 : Vec F S1x1x16 .f32) (l : Fin 16) :
    k5_pay482 v1290 (ix1 l) = v1290 (ix3 (0 : Fin 1) (0 : Fin 1) l) := by
  unfold k5_pay482
  exact cast_16 v1290 l

theorem k5_pay483_lane (v1295 : Vec F S1x1x16 .f32) (l : Fin 16) :
    k5_pay483 v1295 (ix1 l) = v1295 (ix3 (0 : Fin 1) (0 : Fin 1) l) := by
  unfold k5_pay483
  exact cast_16 v1295 l

theorem k5_pay484_lane (v1300 : Vec F S1x1x16 .f32) (l : Fin 16) :
    k5_pay484 v1300 (ix1 l) = v1300 (ix3 (0 : Fin 1) (0 : Fin 1) l) := by
  unfold k5_pay484
  exact cast_16 v1300 l

theorem k5_pay485_lane (v1305 : Vec F S1x1x16 .f32) (l : Fin 16) :
    k5_pay485 v1305 (ix1 l) = v1305 (ix3 (0 : Fin 1) (0 : Fin 1) l) := by
  unfold k5_pay485
  exact cast_16 v1305 l

theorem k5_pay486_lane (v1310 : Vec F S1x1x16 .f32) (l : Fin 16) :
    k5_pay486 v1310 (ix1 l) = v1310 (ix3 (0 : Fin 1) (0 : Fin 1) l) := by
  unfold k5_pay486
  exact cast_16 v1310 l

theorem k5_pay487_lane (v1315 : Vec F S1x1x16 .f32) (l : Fin 16) :
    k5_pay487 v1315 (ix1 l) = v1315 (ix3 (0 : Fin 1) (0 : Fin 1) l) := by
  unfold k5_pay487
  exact cast_16 v1315 l

theorem k5_pay488_lane (v1320 : Vec F S1x1x16 .f32) (l : Fin 16) :
    k5_pay488 v1320 (ix1 l) = v1320 (ix3 (0 : Fin 1) (0 : Fin 1) l) := by
  unfold k5_pay488
  exact cast_16 v1320 l

theorem k5_pay489_lane (v1325 : Vec F S1x1x16 .f32) (l : Fin 16) :
    k5_pay489 v1325 (ix1 l) = v1325 (ix3 (0 : Fin 1) (0 : Fin 1) l) := by
  unfold k5_pay489
  exact cast_16 v1325 l

theorem k5_pay490_lane (v1330 : Vec F S1x1x16 .f32) (l : Fin 16) :
    k5_pay490 v1330 (ix1 l) = v1330 (ix3 (0 : Fin 1) (0 : Fin 1) l) := by
  unfold k5_pay490
  exact cast_16 v1330 l

theorem k5_pay491_lane (v1335 : Vec F S1x1x16 .f32) (l : Fin 16) :
    k5_pay491 v1335 (ix1 l) = v1335 (ix3 (0 : Fin 1) (0 : Fin 1) l) := by
  unfold k5_pay491
  exact cast_16 v1335 l

theorem k5_pay492_lane (v1340 : Vec F S1x1x16 .f32) (l : Fin 16) :
    k5_pay492 v1340 (ix1 l) = v1340 (ix3 (0 : Fin 1) (0 : Fin 1) l) := by
  unfold k5_pay492
  exact cast_16 v1340 l

theorem k5_pay493_lane (v1345 : Vec F S1x1x16 .f32) (l : Fin 16) :
    k5_pay493 v1345 (ix1 l) = v1345 (ix3 (0 : Fin 1) (0 : Fin 1) l) := by
  unfold k5_pay493
  exact cast_16 v1345 l

theorem k5_pay494_lane (v1350 : Vec F S1x1x16 .f32) (l : Fin 16) :
    k5_pay494 v1350 (ix1 l) = v1350 (ix3 (0 : Fin 1) (0 : Fin 1) l) := by
  unfold k5_pay494
  exact cast_16 v1350 l

theorem k5_pay495_lane (v1355 : Vec F S1x1x16 .f32) (l : Fin 16) :
    k5_pay495 v1355 (ix1 l) = v1355 (ix3 (0 : Fin 1) (0 : Fin 1) l) := by
  unfold k5_pay495
  exact cast_16 v1355 l

theorem k5_pay496_lane (v1360 : Vec F S1x1x16 .f32) (l : Fin 16) :
    k5_pay496 v1360 (ix1 l) = v1360 (ix3 (0 : Fin 1) (0 : Fin 1) l) := by
  unfold k5_pay496
  exact cast_16 v1360 l

theorem k5_pay497_lane (v1365 : Vec F S1x1x16 .f32) (l : Fin 16) :
    k5_pay497 v1365 (ix1 l) = v1365 (ix3 (0 : Fin 1) (0 : Fin 1) l) := by
  unfold k5_pay497
  exact cast_16 v1365 l

theorem k5_pay498_lane (v1370 : Vec F S1x1x16 .f32) (l : Fin 16) :
    k5_pay498 v1370 (ix1 l) = v1370 (ix3 (0 : Fin 1) (0 : Fin 1) l) := by
  unfold k5_pay498
  exact cast_16 v1370 l

theorem k5_pay499_lane (v1375 : Vec F S1x1x16 .f32) (l : Fin 16) :
    k5_pay499 v1375 (ix1 l) = v1375 (ix3 (0 : Fin 1) (0 : Fin 1) l) := by
  unfold k5_pay499
  exact cast_16 v1375 l

theorem k5_pay500_lane (v1380 : Vec F S1x1x16 .f32) (l : Fin 16) :
    k5_pay500 v1380 (ix1 l) = v1380 (ix3 (0 : Fin 1) (0 : Fin 1) l) := by
  unfold k5_pay500
  exact cast_16 v1380 l

theorem k5_pay501_lane (v1385 : Vec F S1x1x16 .f32) (l : Fin 16) :
    k5_pay501 v1385 (ix1 l) = v1385 (ix3 (0 : Fin 1) (0 : Fin 1) l) := by
  unfold k5_pay501
  exact cast_16 v1385 l

theorem k5_pay502_lane (v1390 : Vec F S1x1x16 .f32) (l : Fin 16) :
    k5_pay502 v1390 (ix1 l) = v1390 (ix3 (0 : Fin 1) (0 : Fin 1) l) := by
  unfold k5_pay502
  exact cast_16 v1390 l

theorem k5_pay503_lane (v1395 : Vec F S1x1x16 .f32) (l : Fin 16) :
    k5_pay503 v1395 (ix1 l) = v1395 (ix3 (0 : Fin 1) (0 : Fin 1) l) := by
  unfold k5_pay503
  exact cast_16 v1395 l

theorem k5_pay504_lane (v1400 : Vec F S1x1x16 .f32) (l : Fin 16) :
    k5_pay504 v1400 (ix1 l) = v1400 (ix3 (0 : Fin 1) (0 : Fin 1) l) := by
  unfold k5_pay504
  exact cast_16 v1400 l

theorem k5_pay505_lane (v1405 : Vec F S1x1x16 .f32) (l : Fin 16) :
    k5_pay505 v1405 (ix1 l) = v1405 (ix3 (0 : Fin 1) (0 : Fin 1) l) := by
  unfold k5_pay505
  exact cast_16 v1405 l

theorem k5_pay506_lane (v1410 : Vec F S1x1x16 .f32) (l : Fin 16) :
    k5_pay506 v1410 (ix1 l) = v1410 (ix3 (0 : Fin 1) (0 : Fin 1) l) := by
  unfold k5_pay506
  exact cast_16 v1410 l

theorem k5_pay507_lane (v1415 : Vec F S1x1x16 .f32) (l : Fin 16) :
    k5_pay507 v1415 (ix1 l) = v1415 (ix3 (0 : Fin 1) (0 : Fin 1) l) := by
  unfold k5_pay507
  exact cast_16 v1415 l

theorem k5_pay508_lane (v1420 : Vec F S1x1x16 .f32) (l : Fin 16) :
    k5_pay508 v1420 (ix1 l) = v1420 (ix3 (0 : Fin 1) (0 : Fin 1) l) := by
  unfold k5_pay508
  exact cast_16 v1420 l

theorem k5_pay509_lane (v1425 : Vec F S1x1x16 .f32) (l : Fin 16) :
    k5_pay509 v1425 (ix1 l) = v1425 (ix3 (0 : Fin 1) (0 : Fin 1) l) := by
  unfold k5_pay509
  exact cast_16 v1425 l

theorem k5_pay510_lane (v1430 : Vec F S1x1x16 .f32) (l : Fin 16) :
    k5_pay510 v1430 (ix1 l) = v1430 (ix3 (0 : Fin 1) (0 : Fin 1) l) := by
  unfold k5_pay510
  exact cast_16 v1430 l

theorem k5_pay511_lane (v1435 : Vec F S1x1x16 .f32) (l : Fin 16) :
    k5_pay511 v1435 (ix1 l) = v1435 (ix3 (0 : Fin 1) (0 : Fin 1) l) := by
  unfold k5_pay511
  exact cast_16 v1435 l

theorem k5_pay512_lane (v1440 : Vec F S1x1x16 .f32) (l : Fin 16) :
    k5_pay512 v1440 (ix1 l) = v1440 (ix3 (0 : Fin 1) (0 : Fin 1) l) := by
  unfold k5_pay512
  exact cast_16 v1440 l

theorem k5_pay513_lane (v1445 : Vec F S1x1x16 .f32) (l : Fin 16) :
    k5_pay513 v1445 (ix1 l) = v1445 (ix3 (0 : Fin 1) (0 : Fin 1) l) := by
  unfold k5_pay513
  exact cast_16 v1445 l

theorem k5_pay514_lane (v1291 : FVec F S16 .f32) (v1296 : FVec F S16 .f32) (l : Fin 16) :
    k5_pay514 v1291 v1296 (ix1 l) = FloatOps.addf (v1291 (ix1 l)) (v1296 (ix1 l)) := by
  unfold k5_pay514
  exact congrArg₂ FloatOps.addf (rfl) (rfl)

theorem k5_pay515_lane (v1301 : FVec F S16 .f32) (v1306 : FVec F S16 .f32) (l : Fin 16) :
    k5_pay515 v1301 v1306 (ix1 l) = FloatOps.addf (v1301 (ix1 l)) (v1306 (ix1 l)) := by
  unfold k5_pay515
  exact congrArg₂ FloatOps.addf (rfl) (rfl)

theorem k5_pay516_lane (v1311 : FVec F S16 .f32) (v1316 : FVec F S16 .f32) (l : Fin 16) :
    k5_pay516 v1311 v1316 (ix1 l) = FloatOps.addf (v1311 (ix1 l)) (v1316 (ix1 l)) := by
  unfold k5_pay516
  exact congrArg₂ FloatOps.addf (rfl) (rfl)

theorem k5_pay517_lane (v1321 : FVec F S16 .f32) (v1326 : FVec F S16 .f32) (l : Fin 16) :
    k5_pay517 v1321 v1326 (ix1 l) = FloatOps.addf (v1321 (ix1 l)) (v1326 (ix1 l)) := by
  unfold k5_pay517
  exact congrArg₂ FloatOps.addf (rfl) (rfl)

theorem k5_pay518_lane (v1331 : FVec F S16 .f32) (v1336 : FVec F S16 .f32) (l : Fin 16) :
    k5_pay518 v1331 v1336 (ix1 l) = FloatOps.addf (v1331 (ix1 l)) (v1336 (ix1 l)) := by
  unfold k5_pay518
  exact congrArg₂ FloatOps.addf (rfl) (rfl)

theorem k5_pay519_lane (v1341 : FVec F S16 .f32) (v1346 : FVec F S16 .f32) (l : Fin 16) :
    k5_pay519 v1341 v1346 (ix1 l) = FloatOps.addf (v1341 (ix1 l)) (v1346 (ix1 l)) := by
  unfold k5_pay519
  exact congrArg₂ FloatOps.addf (rfl) (rfl)

theorem k5_pay520_lane (v1351 : FVec F S16 .f32) (v1356 : FVec F S16 .f32) (l : Fin 16) :
    k5_pay520 v1351 v1356 (ix1 l) = FloatOps.addf (v1351 (ix1 l)) (v1356 (ix1 l)) := by
  unfold k5_pay520
  exact congrArg₂ FloatOps.addf (rfl) (rfl)

theorem k5_pay521_lane (v1361 : FVec F S16 .f32) (v1366 : FVec F S16 .f32) (l : Fin 16) :
    k5_pay521 v1361 v1366 (ix1 l) = FloatOps.addf (v1361 (ix1 l)) (v1366 (ix1 l)) := by
  unfold k5_pay521
  exact congrArg₂ FloatOps.addf (rfl) (rfl)

theorem k5_pay522_lane (v1371 : FVec F S16 .f32) (v1376 : FVec F S16 .f32) (l : Fin 16) :
    k5_pay522 v1371 v1376 (ix1 l) = FloatOps.addf (v1371 (ix1 l)) (v1376 (ix1 l)) := by
  unfold k5_pay522
  exact congrArg₂ FloatOps.addf (rfl) (rfl)

theorem k5_pay523_lane (v1381 : FVec F S16 .f32) (v1386 : FVec F S16 .f32) (l : Fin 16) :
    k5_pay523 v1381 v1386 (ix1 l) = FloatOps.addf (v1381 (ix1 l)) (v1386 (ix1 l)) := by
  unfold k5_pay523
  exact congrArg₂ FloatOps.addf (rfl) (rfl)

theorem k5_pay524_lane (v1391 : FVec F S16 .f32) (v1396 : FVec F S16 .f32) (l : Fin 16) :
    k5_pay524 v1391 v1396 (ix1 l) = FloatOps.addf (v1391 (ix1 l)) (v1396 (ix1 l)) := by
  unfold k5_pay524
  exact congrArg₂ FloatOps.addf (rfl) (rfl)

theorem k5_pay525_lane (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (l : Fin 16) :
    k5_pay525 v1401 v1406 v1411 v1416 v1421 v1426 v1431 v1436 v1441 v1446 v1447 v1448 v1449 v1450 v1451 v1452 v1453 v1454 v1455 v1456 v1457 (ix3 (0 : Fin 1) (0 : Fin 1) l) = FloatOps.addf (FloatOps.addf (FloatOps.addf (FloatOps.addf (v1447 (ix1 l)) (v1448 (ix1 l))) (FloatOps.addf (v1449 (ix1 l)) (v1450 (ix1 l)))) (FloatOps.addf (FloatOps.addf (v1451 (ix1 l)) (v1452 (ix1 l))) (FloatOps.addf (v1453 (ix1 l)) (v1454 (ix1 l))))) (FloatOps.addf (FloatOps.addf (FloatOps.addf (v1455 (ix1 l)) (v1456 (ix1 l))) (FloatOps.addf (v1457 (ix1 l)) (FloatOps.addf (v1401 (ix1 l)) (v1406 (ix1 l))))) (FloatOps.addf (FloatOps.addf (FloatOps.addf (v1411 (ix1 l)) (v1416 (ix1 l))) (FloatOps.addf (v1421 (ix1 l)) (v1426 (ix1 l)))) (FloatOps.addf (FloatOps.addf (v1431 (ix1 l)) (v1436 (ix1 l))) (FloatOps.addf (v1441 (ix1 l)) (v1446 (ix1 l)))))) := by
  unfold k5_pay525
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k5_pay525_tree (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (w : Fin 32 → F .f32) (l : Fin 16)
    (h_v1447 : v1447 (ix1 l) = FloatOps.addf (w 0) (w 1))
    (h_v1448 : v1448 (ix1 l) = FloatOps.addf (w 2) (w 3))
    (h_v1449 : v1449 (ix1 l) = FloatOps.addf (w 4) (w 5))
    (h_v1450 : v1450 (ix1 l) = FloatOps.addf (w 6) (w 7))
    (h_v1451 : v1451 (ix1 l) = FloatOps.addf (w 8) (w 9))
    (h_v1452 : v1452 (ix1 l) = FloatOps.addf (w 10) (w 11))
    (h_v1453 : v1453 (ix1 l) = FloatOps.addf (w 12) (w 13))
    (h_v1454 : v1454 (ix1 l) = FloatOps.addf (w 14) (w 15))
    (h_v1455 : v1455 (ix1 l) = FloatOps.addf (w 16) (w 17))
    (h_v1456 : v1456 (ix1 l) = FloatOps.addf (w 18) (w 19))
    (h_v1457 : v1457 (ix1 l) = FloatOps.addf (w 20) (w 21))
    (h_v1401 : v1401 (ix1 l) = w 22)
    (h_v1406 : v1406 (ix1 l) = w 23)
    (h_v1411 : v1411 (ix1 l) = w 24)
    (h_v1416 : v1416 (ix1 l) = w 25)
    (h_v1421 : v1421 (ix1 l) = w 26)
    (h_v1426 : v1426 (ix1 l) = w 27)
    (h_v1431 : v1431 (ix1 l) = w 28)
    (h_v1436 : v1436 (ix1 l) = w 29)
    (h_v1441 : v1441 (ix1 l) = w 30)
    (h_v1446 : v1446 (ix1 l) = w 31) :
    k5_pay525 v1401 v1406 v1411 v1416 v1421 v1426 v1431 v1436 v1441 v1446 v1447 v1448 v1449 v1450 v1451 v1452 v1453 v1454 v1455 v1456 v1457 (ix3 (0 : Fin 1) (0 : Fin 1) l) = tree32 w := by
  unfold k5_pay525
  refine (cast_116 _ l).trans ?_
  exact congrArg₂ FloatOps.addf (congrArg₂ FloatOps.addf (congrArg₂ FloatOps.addf (congrArg₂ FloatOps.addf (h_v1447) (h_v1448)) (congrArg₂ FloatOps.addf (h_v1449) (h_v1450))) (congrArg₂ FloatOps.addf (congrArg₂ FloatOps.addf (h_v1451) (h_v1452)) (congrArg₂ FloatOps.addf (h_v1453) (h_v1454)))) (congrArg₂ FloatOps.addf (congrArg₂ FloatOps.addf (congrArg₂ FloatOps.addf (h_v1455) (h_v1456)) (congrArg₂ FloatOps.addf (h_v1457) (congrArg₂ FloatOps.addf (h_v1401) (h_v1406)))) (congrArg₂ FloatOps.addf (congrArg₂ FloatOps.addf (congrArg₂ FloatOps.addf (h_v1411) (h_v1416)) (congrArg₂ FloatOps.addf (h_v1421) (h_v1426))) (congrArg₂ FloatOps.addf (congrArg₂ FloatOps.addf (h_v1431) (h_v1436)) (congrArg₂ FloatOps.addf (h_v1441) (h_v1446)))))

theorem k5_pay526_lane (v1486 : Vec F S1x1x16 .f32) (l : Fin 16) :
    k5_pay526 v1486 (ix1 l) = v1486 (ix3 (0 : Fin 1) (0 : Fin 1) l) := by
  unfold k5_pay526
  exact cast_16 v1486 l

theorem k5_pay527_lane (v1491 : Vec F S1x1x16 .f32) (l : Fin 16) :
    k5_pay527 v1491 (ix1 l) = v1491 (ix3 (0 : Fin 1) (0 : Fin 1) l) := by
  unfold k5_pay527
  exact cast_16 v1491 l

theorem k5_pay528_lane (v1496 : Vec F S1x1x16 .f32) (l : Fin 16) :
    k5_pay528 v1496 (ix1 l) = v1496 (ix3 (0 : Fin 1) (0 : Fin 1) l) := by
  unfold k5_pay528
  exact cast_16 v1496 l

theorem k5_pay529_lane (v1501 : Vec F S1x1x16 .f32) (l : Fin 16) :
    k5_pay529 v1501 (ix1 l) = v1501 (ix3 (0 : Fin 1) (0 : Fin 1) l) := by
  unfold k5_pay529
  exact cast_16 v1501 l

theorem k5_pay530_lane (v1506 : Vec F S1x1x16 .f32) (l : Fin 16) :
    k5_pay530 v1506 (ix1 l) = v1506 (ix3 (0 : Fin 1) (0 : Fin 1) l) := by
  unfold k5_pay530
  exact cast_16 v1506 l

theorem k5_pay531_lane (v1511 : Vec F S1x1x16 .f32) (l : Fin 16) :
    k5_pay531 v1511 (ix1 l) = v1511 (ix3 (0 : Fin 1) (0 : Fin 1) l) := by
  unfold k5_pay531
  exact cast_16 v1511 l

theorem k5_pay532_lane (v1516 : Vec F S1x1x16 .f32) (l : Fin 16) :
    k5_pay532 v1516 (ix1 l) = v1516 (ix3 (0 : Fin 1) (0 : Fin 1) l) := by
  unfold k5_pay532
  exact cast_16 v1516 l

theorem k5_pay533_lane (v1521 : Vec F S1x1x16 .f32) (l : Fin 16) :
    k5_pay533 v1521 (ix1 l) = v1521 (ix3 (0 : Fin 1) (0 : Fin 1) l) := by
  unfold k5_pay533
  exact cast_16 v1521 l

theorem k5_pay534_lane (v1526 : Vec F S1x1x16 .f32) (l : Fin 16) :
    k5_pay534 v1526 (ix1 l) = v1526 (ix3 (0 : Fin 1) (0 : Fin 1) l) := by
  unfold k5_pay534
  exact cast_16 v1526 l

theorem k5_pay535_lane (v1531 : Vec F S1x1x16 .f32) (l : Fin 16) :
    k5_pay535 v1531 (ix1 l) = v1531 (ix3 (0 : Fin 1) (0 : Fin 1) l) := by
  unfold k5_pay535
  exact cast_16 v1531 l

theorem k5_pay536_lane (v1536 : Vec F S1x1x16 .f32) (l : Fin 16) :
    k5_pay536 v1536 (ix1 l) = v1536 (ix3 (0 : Fin 1) (0 : Fin 1) l) := by
  unfold k5_pay536
  exact cast_16 v1536 l

theorem k5_pay537_lane (v1541 : Vec F S1x1x16 .f32) (l : Fin 16) :
    k5_pay537 v1541 (ix1 l) = v1541 (ix3 (0 : Fin 1) (0 : Fin 1) l) := by
  unfold k5_pay537
  exact cast_16 v1541 l

theorem k5_pay538_lane (v1546 : Vec F S1x1x16 .f32) (l : Fin 16) :
    k5_pay538 v1546 (ix1 l) = v1546 (ix3 (0 : Fin 1) (0 : Fin 1) l) := by
  unfold k5_pay538
  exact cast_16 v1546 l

theorem k5_pay539_lane (v1551 : Vec F S1x1x16 .f32) (l : Fin 16) :
    k5_pay539 v1551 (ix1 l) = v1551 (ix3 (0 : Fin 1) (0 : Fin 1) l) := by
  unfold k5_pay539
  exact cast_16 v1551 l

theorem k5_pay540_lane (v1556 : Vec F S1x1x16 .f32) (l : Fin 16) :
    k5_pay540 v1556 (ix1 l) = v1556 (ix3 (0 : Fin 1) (0 : Fin 1) l) := by
  unfold k5_pay540
  exact cast_16 v1556 l

theorem k5_pay541_lane (v1561 : Vec F S1x1x16 .f32) (l : Fin 16) :
    k5_pay541 v1561 (ix1 l) = v1561 (ix3 (0 : Fin 1) (0 : Fin 1) l) := by
  unfold k5_pay541
  exact cast_16 v1561 l

theorem k5_pay542_lane (v1566 : Vec F S1x1x16 .f32) (l : Fin 16) :
    k5_pay542 v1566 (ix1 l) = v1566 (ix3 (0 : Fin 1) (0 : Fin 1) l) := by
  unfold k5_pay542
  exact cast_16 v1566 l

theorem k5_pay543_lane (v1571 : Vec F S1x1x16 .f32) (l : Fin 16) :
    k5_pay543 v1571 (ix1 l) = v1571 (ix3 (0 : Fin 1) (0 : Fin 1) l) := by
  unfold k5_pay543
  exact cast_16 v1571 l

theorem k5_pay544_lane (v1576 : Vec F S1x1x16 .f32) (l : Fin 16) :
    k5_pay544 v1576 (ix1 l) = v1576 (ix3 (0 : Fin 1) (0 : Fin 1) l) := by
  unfold k5_pay544
  exact cast_16 v1576 l

theorem k5_pay545_lane (v1581 : Vec F S1x1x16 .f32) (l : Fin 16) :
    k5_pay545 v1581 (ix1 l) = v1581 (ix3 (0 : Fin 1) (0 : Fin 1) l) := by
  unfold k5_pay545
  exact cast_16 v1581 l

theorem k5_pay546_lane (v1586 : Vec F S1x1x16 .f32) (l : Fin 16) :
    k5_pay546 v1586 (ix1 l) = v1586 (ix3 (0 : Fin 1) (0 : Fin 1) l) := by
  unfold k5_pay546
  exact cast_16 v1586 l

theorem k5_pay547_lane (v1591 : Vec F S1x1x16 .f32) (l : Fin 16) :
    k5_pay547 v1591 (ix1 l) = v1591 (ix3 (0 : Fin 1) (0 : Fin 1) l) := by
  unfold k5_pay547
  exact cast_16 v1591 l

theorem k5_pay548_lane (v1596 : Vec F S1x1x16 .f32) (l : Fin 16) :
    k5_pay548 v1596 (ix1 l) = v1596 (ix3 (0 : Fin 1) (0 : Fin 1) l) := by
  unfold k5_pay548
  exact cast_16 v1596 l

theorem k5_pay549_lane (v1601 : Vec F S1x1x16 .f32) (l : Fin 16) :
    k5_pay549 v1601 (ix1 l) = v1601 (ix3 (0 : Fin 1) (0 : Fin 1) l) := by
  unfold k5_pay549
  exact cast_16 v1601 l

theorem k5_pay550_lane (v1606 : Vec F S1x1x16 .f32) (l : Fin 16) :
    k5_pay550 v1606 (ix1 l) = v1606 (ix3 (0 : Fin 1) (0 : Fin 1) l) := by
  unfold k5_pay550
  exact cast_16 v1606 l

theorem k5_pay551_lane (v1611 : Vec F S1x1x16 .f32) (l : Fin 16) :
    k5_pay551 v1611 (ix1 l) = v1611 (ix3 (0 : Fin 1) (0 : Fin 1) l) := by
  unfold k5_pay551
  exact cast_16 v1611 l

theorem k5_pay552_lane (v1487 : FVec F S16 .f32) (v1492 : FVec F S16 .f32) (l : Fin 16) :
    k5_pay552 v1487 v1492 (ix1 l) = FloatOps.addf (v1487 (ix1 l)) (v1492 (ix1 l)) := by
  unfold k5_pay552
  exact congrArg₂ FloatOps.addf (rfl) (rfl)

theorem k5_pay553_lane (v1497 : FVec F S16 .f32) (v1502 : FVec F S16 .f32) (l : Fin 16) :
    k5_pay553 v1497 v1502 (ix1 l) = FloatOps.addf (v1497 (ix1 l)) (v1502 (ix1 l)) := by
  unfold k5_pay553
  exact congrArg₂ FloatOps.addf (rfl) (rfl)

theorem k5_pay554_lane (v1507 : FVec F S16 .f32) (v1512 : FVec F S16 .f32) (l : Fin 16) :
    k5_pay554 v1507 v1512 (ix1 l) = FloatOps.addf (v1507 (ix1 l)) (v1512 (ix1 l)) := by
  unfold k5_pay554
  exact congrArg₂ FloatOps.addf (rfl) (rfl)

theorem k5_pay555_lane (v1517 : FVec F S16 .f32) (v1522 : FVec F S16 .f32) (l : Fin 16) :
    k5_pay555 v1517 v1522 (ix1 l) = FloatOps.addf (v1517 (ix1 l)) (v1522 (ix1 l)) := by
  unfold k5_pay555
  exact congrArg₂ FloatOps.addf (rfl) (rfl)

theorem k5_pay556_lane (v1527 : FVec F S16 .f32) (v1532 : FVec F S16 .f32) (l : Fin 16) :
    k5_pay556 v1527 v1532 (ix1 l) = FloatOps.addf (v1527 (ix1 l)) (v1532 (ix1 l)) := by
  unfold k5_pay556
  exact congrArg₂ FloatOps.addf (rfl) (rfl)

theorem k5_pay557_lane (v1537 : FVec F S16 .f32) (v1542 : FVec F S16 .f32) (l : Fin 16) :
    k5_pay557 v1537 v1542 (ix1 l) = FloatOps.addf (v1537 (ix1 l)) (v1542 (ix1 l)) := by
  unfold k5_pay557
  exact congrArg₂ FloatOps.addf (rfl) (rfl)

theorem k5_pay558_lane (v1547 : FVec F S16 .f32) (v1552 : FVec F S16 .f32) (l : Fin 16) :
    k5_pay558 v1547 v1552 (ix1 l) = FloatOps.addf (v1547 (ix1 l)) (v1552 (ix1 l)) := by
  unfold k5_pay558
  exact congrArg₂ FloatOps.addf (rfl) (rfl)

theorem k5_pay559_lane (v1557 : FVec F S16 .f32) (v1562 : FVec F S16 .f32) (l : Fin 16) :
    k5_pay559 v1557 v1562 (ix1 l) = FloatOps.addf (v1557 (ix1 l)) (v1562 (ix1 l)) := by
  unfold k5_pay559
  exact congrArg₂ FloatOps.addf (rfl) (rfl)

theorem k5_pay560_lane (v1567 : FVec F S16 .f32) (v1572 : FVec F S16 .f32) (l : Fin 16) :
    k5_pay560 v1567 v1572 (ix1 l) = FloatOps.addf (v1567 (ix1 l)) (v1572 (ix1 l)) := by
  unfold k5_pay560
  exact congrArg₂ FloatOps.addf (rfl) (rfl)

theorem k5_pay561_lane (v1577 : FVec F S16 .f32) (v1582 : FVec F S16 .f32) (l : Fin 16) :
    k5_pay561 v1577 v1582 (ix1 l) = FloatOps.addf (v1577 (ix1 l)) (v1582 (ix1 l)) := by
  unfold k5_pay561
  exact congrArg₂ FloatOps.addf (rfl) (rfl)

theorem k5_pay562_lane (v1587 : FVec F S16 .f32) (v1592 : FVec F S16 .f32) (l : Fin 16) :
    k5_pay562 v1587 v1592 (ix1 l) = FloatOps.addf (v1587 (ix1 l)) (v1592 (ix1 l)) := by
  unfold k5_pay562
  exact congrArg₂ FloatOps.addf (rfl) (rfl)

theorem k5_pay563_lane (v1597 : FVec F S16 .f32) (v1602 : FVec F S16 .f32) (l : Fin 16) :
    k5_pay563 v1597 v1602 (ix1 l) = FloatOps.addf (v1597 (ix1 l)) (v1602 (ix1 l)) := by
  unfold k5_pay563
  exact congrArg₂ FloatOps.addf (rfl) (rfl)

theorem k5_pay564_lane (v1607 : FVec F S16 .f32) (v1612 : FVec F S16 .f32) (l : Fin 16) :
    k5_pay564 v1607 v1612 (ix1 l) = FloatOps.addf (v1607 (ix1 l)) (v1612 (ix1 l)) := by
  unfold k5_pay564
  exact congrArg₂ FloatOps.addf (rfl) (rfl)

theorem k5_pay565_lane (v1616 : Vec F S1x1x16 .f32) (v1621 : Vec F S1x1x16 .f32) (l : Fin 16) :
    k5_pay565 v1616 v1621 (ix1 l) = FloatOps.addf (v1616 (ix3 (0 : Fin 1) (0 : Fin 1) l)) (v1621 (ix3 (0 : Fin 1) (0 : Fin 1) l)) := by
  unfold k5_pay565
  exact congrArg₂ FloatOps.addf (cast_16 v1616 l) (cast_16 v1621 l)

theorem k5_pay566_lane (v1626 : Vec F S1x1x16 .f32) (v1631 : Vec F S1x1x16 .f32) (l : Fin 16) :
    k5_pay566 v1626 v1631 (ix1 l) = FloatOps.addf (v1626 (ix3 (0 : Fin 1) (0 : Fin 1) l)) (v1631 (ix3 (0 : Fin 1) (0 : Fin 1) l)) := by
  unfold k5_pay566
  exact congrArg₂ FloatOps.addf (cast_16 v1626 l) (cast_16 v1631 l)

theorem k5_pay567_lane (v1636 : Vec F S1x1x16 .f32) (v1641 : Vec F S1x1x16 .f32) (l : Fin 16) :
    k5_pay567 v1636 v1641 (ix1 l) = FloatOps.addf (v1636 (ix3 (0 : Fin 1) (0 : Fin 1) l)) (v1641 (ix3 (0 : Fin 1) (0 : Fin 1) l)) := by
  unfold k5_pay567
  exact congrArg₂ FloatOps.addf (cast_16 v1636 l) (cast_16 v1641 l)

theorem k5_pay568_lane (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (l : Fin 16) :
    k5_pay568 v1643 v1644 v1645 v1646 v1647 v1648 v1649 v1650 v1651 v1652 v1653 v1654 v1655 v1656 v1657 v1658 (ix1 l) = FloatOps.addf (FloatOps.addf (FloatOps.addf (FloatOps.addf (v1643 (ix1 l)) (v1644 (ix1 l))) (FloatOps.addf (v1645 (ix1 l)) (v1646 (ix1 l)))) (FloatOps.addf (FloatOps.addf (v1647 (ix1 l)) (v1648 (ix1 l))) (FloatOps.addf (v1649 (ix1 l)) (v1650 (ix1 l))))) (FloatOps.addf (FloatOps.addf (FloatOps.addf (v1651 (ix1 l)) (v1652 (ix1 l))) (FloatOps.addf (v1653 (ix1 l)) (v1654 (ix1 l)))) (FloatOps.addf (FloatOps.addf (v1655 (ix1 l)) (v1656 (ix1 l))) (FloatOps.addf (v1657 (ix1 l)) (v1658 (ix1 l))))) := by
  unfold k5_pay568
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))

theorem k5_pay568_tree (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (w : Fin 32 → F .f32) (l : Fin 16)
    (h_v1643 : v1643 (ix1 l) = FloatOps.addf (w 0) (w 1))
    (h_v1644 : v1644 (ix1 l) = FloatOps.addf (w 2) (w 3))
    (h_v1645 : v1645 (ix1 l) = FloatOps.addf (w 4) (w 5))
    (h_v1646 : v1646 (ix1 l) = FloatOps.addf (w 6) (w 7))
    (h_v1647 : v1647 (ix1 l) = FloatOps.addf (w 8) (w 9))
    (h_v1648 : v1648 (ix1 l) = FloatOps.addf (w 10) (w 11))
    (h_v1649 : v1649 (ix1 l) = FloatOps.addf (w 12) (w 13))
    (h_v1650 : v1650 (ix1 l) = FloatOps.addf (w 14) (w 15))
    (h_v1651 : v1651 (ix1 l) = FloatOps.addf (w 16) (w 17))
    (h_v1652 : v1652 (ix1 l) = FloatOps.addf (w 18) (w 19))
    (h_v1653 : v1653 (ix1 l) = FloatOps.addf (w 20) (w 21))
    (h_v1654 : v1654 (ix1 l) = FloatOps.addf (w 22) (w 23))
    (h_v1655 : v1655 (ix1 l) = FloatOps.addf (w 24) (w 25))
    (h_v1656 : v1656 (ix1 l) = FloatOps.addf (w 26) (w 27))
    (h_v1657 : v1657 (ix1 l) = FloatOps.addf (w 28) (w 29))
    (h_v1658 : v1658 (ix1 l) = FloatOps.addf (w 30) (w 31)) :
    k5_pay568 v1643 v1644 v1645 v1646 v1647 v1648 v1649 v1650 v1651 v1652 v1653 v1654 v1655 v1656 v1657 v1658 (ix1 l) = tree32 w := by
  unfold k5_pay568
  exact congrArg₂ FloatOps.addf (congrArg₂ FloatOps.addf (congrArg₂ FloatOps.addf (congrArg₂ FloatOps.addf (h_v1643) (h_v1644)) (congrArg₂ FloatOps.addf (h_v1645) (h_v1646))) (congrArg₂ FloatOps.addf (congrArg₂ FloatOps.addf (h_v1647) (h_v1648)) (congrArg₂ FloatOps.addf (h_v1649) (h_v1650)))) (congrArg₂ FloatOps.addf (congrArg₂ FloatOps.addf (congrArg₂ FloatOps.addf (h_v1651) (h_v1652)) (congrArg₂ FloatOps.addf (h_v1653) (h_v1654))) (congrArg₂ FloatOps.addf (congrArg₂ FloatOps.addf (h_v1655) (h_v1656)) (congrArg₂ FloatOps.addf (h_v1657) (h_v1658))))

theorem k5_pay569_lane (v1673 : FVec F S16 .f32) (l : Fin 16) :
    k5_pay569 v1673 (ix3 (0 : Fin 1) (0 : Fin 1) l) = v1673 (ix1 l) := by
  unfold k5_pay569
  exact cast_116 v1673 l

theorem k5_pay570_lane (v1673 : FVec F S16 .f32) (l : Fin 16) :
    k5_pay570 v1673 (ix3 (0 : Fin 1) (0 : Fin 1) l) = v1673 (ix1 l) := by
  unfold k5_pay570
  exact cast_116 v1673 l

end Cert.Proof.KI

end
-- ==== Proof.ScTree0C2.lean ====
import proofs.«205366_g3083786518796_cont_9to1_852_38_alg».proof.Proof.ScTree5

/-!
# The third SparseCore kernel's summing payloads

The third kernel is the first kernel's text printed again, so its payloads have the same lane and tree lemmas.
-/
-- ==== Proof.BodyInnerC2.lean ====
import proofs.«205366_g3083786518796_cont_9to1_852_38_alg».proof.Proof.BodyLemmasC2
import proofs.«205366_g3083786518796_cont_9to1_852_38_alg».proof.Proof.ScTree0C2
import Idealize.ShloMosaic.Lib.Writes
import Idealize.ShloMosaic.Lib.ValueIdx

noncomputable section

/-!
# One trip of a tile's inner loop, with what it stores named

A trip of the inner loop takes one row `r` of one slot of the output scratch: for each of the eight groups of 16
lanes it loads the 32 gathered rows `32·r … 32·r + 31` of the same slot of the row scratch at those lanes, adds them in
five levels of pairwise sums, and stores the 16 sums.  After the trip the output scratch holds, at row `r` of that
slot, lane by lane the balanced tree of the 32 gathered numbers, and is unchanged everywhere else; the row scratch is
only read.
-/

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KI (tree32)

variable {F : FTy → Type}

variable [FloatOps F]
variable {U : Type} [URA U] [CountersIn U]

local notation "𝕄" => MT nD τ sig (HIx 3) (Elt F) ℕ U ℕ
local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

section Inner
variable (d : Dev nD) (L : grid5.Coords)

theorem trips_t2 : k5_t2_loop.trips = 4 := by decide
theorem trips_t3 : k5_t3_loop.trips = 4 := by decide
theorem k2_lt (k2 : Fin k5_t2_loop.trips) : k2.val < 4 := lt_of_lt_of_eq k2.isLt trips_t2
theorem k3_lt (k3 : Fin k5_t3_loop.trips) : k3.val < 4 := lt_of_lt_of_eq k3.isLt trips_t3

/-- An index of a [1,1,16] block is its lane. -/
theorem exists_lane (x : S1x1x16.Idx) : ∃ l : Fin 16, x = ix3 (0 : Fin 1) (0 : Fin 1) l := by
  refine ⟨x 2, ?_⟩
  funext a
  match a with
  | ⟨0, _⟩ => exact (Subsingleton.elim (α := Fin 1) _ _)
  | ⟨1, _⟩ => exact (Subsingleton.elim (α := Fin 1) _ _)
  | ⟨2, _⟩ => rfl

/-- A 16-lane load of the row scratch at slot `s`, row `R`, lanes from `c`: its lane `l` is the scratch's entry there. -/
theorem ld_lane (o : Fin 3 → Nat) (s : Fin 2) (R c : Nat) (hR : R < 128) (hc : c + 16 ≤ 128) (ho : o = ![s.val, R, c])
    (h : ∀ a, o a + S1x1x16.size a ≤ S2x128x128.size a) (fr : Buf (Elt F) ((V d (cV L) (jV L)).loc cc5_scratch1)) (l : Fin 16) :
    View.readAt (Elt F) (Memref.whole cc5_scratch1).view (Rect.unit (s := S2x128x128) o S1x1x16.size h).toLoadRect fr
        (ix3 (0 : Fin 1) (0 : Fin 1) l)
      = fr (ix3 s (⟨R, hR⟩ : Fin 128) (⟨c + l.val, by omega⟩ : Fin 128)) := by
  subst ho
  rw [View.readAt_apply]
  show fr ((Rect.unit (s := S2x128x128) ![s.val, R, c] S1x1x16.size h).toLoadRect.idx (ix3 (0 : Fin 1) (0 : Fin 1) l)) = _
  refine congrArg fr ?_
  funext a; apply Fin.ext
  match a with
  | ⟨0, _⟩ => show s.val + 1 * 0 = s.val; omega
  | ⟨1, _⟩ => show R + 1 * 0 = R; omega
  | ⟨2, _⟩ => show c + 1 * l.val = c + l.val; omega

/-- What row `r` of slot `s` of the output scratch is to hold at an index `y` of that row: the tree of the 32 gathered
    numbers, rows `32·r …` of slot `s` of the row scratch at `y`'s lane. -/
def scrSum (s : Fin 2) (fr : Buf (Elt F) ((V d (cV L) (jV L)).loc cc5_scratch1)) (r : Nat) (hr : r < 4) (y : S2x4x128.Idx) : F .f32 :=
  tree32 fun k : Fin 32 => fr (ix3 s (⟨32 * r + k.val, by omega⟩ : Fin 128) (y 2))

set_option maxHeartbeats 4000000 in
/-- Trip `kk` of slot 0's inner loop: the row scratch is only read; the output scratch ends with row `kk` of
    slot 0 at the trees of the 32 gathered rows, lane by lane, and is unchanged off that row.  (The contents are read
    through the whole buffer's view, `View.read … f = f`.) -/
theorem inner_trip0 (k : Fin k5_t1_loop.trips) (kk : Fin k5_t2_loop.trips)
    (fr : Buf (Elt F) ((V d (cV L) (jV L)).loc cc5_scratch1)) (fob : Buf (Elt F) ((V d (cV L) (jV L)).loc cc5_scratch2))
    (v2 : BitVec 32) :
    iprop(((rwV).view.loc (V d (cV L) (jV L)) ↦[Finset.univ \ (rwK1).view.set]{fullShare} fr)
      ∗ ((obV).view.loc (V d (cV L) (jV L)) ↦[Finset.univ \ (obK1).view.set]{fullShare} fob))
      ⊢ (wp frame (wpE (defs₀ (F := F)) 𝒱₀ (V d (cV L) (jV L)) none) Set.univ
          (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k kk ())
          fun _ => iprop(((rwV).view.loc (V d (cV L) (jV L)) ↦[Finset.univ \ (rwK1).view.set]{fullShare} fr)
            ∗ ∃ fob'' : Buf (Elt F) ((V d (cV L) (jV L)).loc cc5_scratch2), ((obV).view.loc (V d (cV L) (jV L)) ↦[Finset.univ \ (obK1).view.set]{fullShare} fob'')
              ∗ ⌜(∀ (g : Fin 8) (l : Fin 16), View.read (Elt F) (Memref.whole cc5_scratch2).view fob'' (ix3 (0 : Fin 2) (⟨kk.val, k2_lt kk⟩ : Fin 4) (⟨16 * g.val + l.val, by omega⟩ : Fin 128))
                    = scrSum d L (0 : Fin 2) fr kk.val (k2_lt kk) (ix3 (0 : Fin 2) (⟨kk.val, k2_lt kk⟩ : Fin 4) (⟨16 * g.val + l.val, by omega⟩ : Fin 128)))
                ∧ (∀ y : S2x4x128.Idx, ¬((y 0).val = 0 ∧ (y 1).val = kk.val) →
                    View.read (Elt F) (Memref.whole cc5_scratch2).view fob'' y = View.read (Elt F) (Memref.whole cc5_scratch2).view fob y)⌝) : sProp 𝕄) := by
  iintro ⟨Hrw, Hob⟩
  unfold k5_t2_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc5_scratch2).view fob (scrSum d L (0 : Fin 2) fr kk.val (k2_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (0 : Fin 2) fr kk.val (k2_lt kk) ((Rect.unit (s := S2x4x128) (k5_off19 kk) S1x1x16.size (k5_off19_inb kk)).emb (ix3 (0 : Fin 1) (0 : Fin 1) l'))
        simp only [Cert.Proof.KI.k5_pay569_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off18 kk (BitVec.ofNat 32 k.val)) S1x1x16.size (k5_off18_inb kk k)).toLoadRect fr (ix3 (0 : Fin 1) (0 : Fin 1) l')) rfl ?_
        refine (congrArg tree32 (funext fun k => ld_lane d L _ (0 : Fin 2) (32 * kk.val + k.val) 112 (by have := k2_lt kk; omega) (by omega) (k5_off18_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 112 + l'.val = k5_off19 kk 2 + 1 * l'.val
        rw [k5_off19_eq]
        show 112 + l'.val = 112 + 1 * l'.val
        omega
      · -- lane group 6: lanes 96 … 111
        intro x
        obtain ⟨l', rfl⟩ := exists_lane x
        show _ = scrSum d L (0 : Fin 2) fr kk.val (k2_lt kk) ((Rect.unit (s := S2x4x128) (k5_off17 kk) S1x1x16.size (k5_off17_inb kk)).emb (ix3 (0 : Fin 1) (0 : Fin 1) l'))
        simp only [Cert.Proof.KI.k5_pay241_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off16 kk (BitVec.ofNat 32 k.val)) S1x1x16.size (k5_off16_inb kk k)).toLoadRect fr (ix3 (0 : Fin 1) (0 : Fin 1) l')) rfl ?_
        refine (congrArg tree32 (funext fun k => ld_lane d L _ (0 : Fin 2) (32 * kk.val + k.val) 96 (by have := k2_lt kk; omega) (by omega) (k5_off16_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 96 + l'.val = k5_off17 kk 2 + 1 * l'.val
        rw [k5_off17_eq]
        show 96 + l'.val = 96 + 1 * l'.val
        omega
      · -- lane group 5: lanes 80 … 95
        intro x
        obtain ⟨l', rfl⟩ := exists_lane x
        show _ = scrSum d L (0 : Fin 2) fr kk.val (k2_lt kk) ((Rect.unit (s := S2x4x128) (k5_off15 kk) S1x1x16.size (k5_off15_inb kk)).emb (ix3 (0 : Fin 1) (0 : Fin 1) l'))
        simp only [Cert.Proof.KI.k5_pay197_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off14 kk (BitVec.ofNat 32 k.val)) S1x1x16.size (k5_off14_inb kk k)).toLoadRect fr (ix3 (0 : Fin 1) (0 : Fin 1) l')) rfl ?_
        refine (congrArg tree32 (funext fun k => ld_lane d L _ (0 : Fin 2) (32 * kk.val + k.val) 80 (by have := k2_lt kk; omega) (by omega) (k5_off14_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 80 + l'.val = k5_off15 kk 2 + 1 * l'.val
        rw [k5_off15_eq]
        show 80 + l'.val = 80 + 1 * l'.val
        omega
      · -- lane group 4: lanes 64 … 79
        intro x
        obtain ⟨l', rfl⟩ := exists_lane x
        show _ = scrSum d L (0 : Fin 2) fr kk.val (k2_lt kk) ((Rect.unit (s := S2x4x128) (k5_off13 kk) S1x1x16.size (k5_off13_inb kk)).emb (ix3 (0 : Fin 1) (0 : Fin 1) l'))
        simp only [Cert.Proof.KI.k5_pay158_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off12 kk (BitVec.ofNat 32 k.val)) S1x1x16.size (k5_off12_inb kk k)).toLoadRect fr (ix3 (0 : Fin 1) (0 : Fin 1) l')) rfl ?_
        refine (congrArg tree32 (funext fun k => ld_lane d L _ (0 : Fin 2) (32 * kk.val + k.val) 64 (by have := k2_lt kk; omega) (by omega) (k5_off12_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 64 + l'.val = k5_off13 kk 2 + 1 * l'.val
        rw [k5_off13_eq]
        show 64 + l'.val = 64 + 1 * l'.val
        omega
      · -- lane group 3: lanes 48 … 63
        intro x
        obtain ⟨l', rfl⟩ := exists_lane x
        show _ = scrSum d L (0 : Fin 2) fr kk.val (k2_lt kk) ((Rect.unit (s := S2x4x128) (k5_off11 kk) S1x1x16.size (k5_off11_inb kk)).emb (ix3 (0 : Fin 1) (0 : Fin 1) l'))
        simp only [Cert.Proof.KI.k5_pay124_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off10 kk (BitVec.ofNat 32 k.val)) S1x1x16.size (k5_off10_inb kk k)).toLoadRect fr (ix3 (0 : Fin 1) (0 : Fin 1) l')) rfl ?_
        refine (congrArg tree32 (funext fun k => ld_lane d L _ (0 : Fin 2) (32 * kk.val + k.val) 48 (by have := k2_lt kk; omega) (by omega) (k5_off10_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 48 + l'.val = k5_off11 kk 2 + 1 * l'.val
        rw [k5_off11_eq]
        show 48 + l'.val = 48 + 1 * l'.val
        omega
      · -- lane group 2: lanes 32 … 47
        intro x
        obtain ⟨l', rfl⟩ := exists_lane x
        show _ = scrSum d L (0 : Fin 2) fr kk.val (k2_lt kk) ((Rect.unit (s := S2x4x128) (k5_off9 kk) S1x1x16.size (k5_off9_inb kk)).emb (ix3 (0 : Fin 1) (0 : Fin 1) l'))
        simp only [Cert.Proof.KI.k5_pay92_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off8 kk (BitVec.ofNat 32 k.val)) S1x1x16.size (k5_off8_inb kk k)).toLoadRect fr (ix3 (0 : Fin 1) (0 : Fin 1) l')) rfl ?_
        refine (congrArg tree32 (funext fun k => ld_lane d L _ (0 : Fin 2) (32 * kk.val + k.val) 32 (by have := k2_lt kk; omega) (by omega) (k5_off8_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 32 + l'.val = k5_off9 kk 2 + 1 * l'.val
        rw [k5_off9_eq]
        show 32 + l'.val = 32 + 1 * l'.val
        omega
      · -- lane group 1: lanes 16 … 31
        intro x
        obtain ⟨l', rfl⟩ := exists_lane x
        show _ = scrSum d L (0 : Fin 2) fr kk.val (k2_lt kk) ((Rect.unit (s := S2x4x128) (k5_off7 kk) S1x1x16.size (k5_off7_inb kk)).emb (ix3 (0 : Fin 1) (0 : Fin 1) l'))
        simp only [Cert.Proof.KI.k5_pay61_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off6 kk (BitVec.ofNat 32 k.val)) S1x1x16.size (k5_off6_inb kk k)).toLoadRect fr (ix3 (0 : Fin 1) (0 : Fin 1) l')) rfl ?_
        refine (congrArg tree32 (funext fun k => ld_lane d L _ (0 : Fin 2) (32 * kk.val + k.val) 16 (by have := k2_lt kk; omega) (by omega) (k5_off6_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 16 + l'.val = k5_off7 kk 2 + 1 * l'.val
        rw [k5_off7_eq]
        show 16 + l'.val = 16 + 1 * l'.val
        omega
      · -- lane group 0: lanes 0 … 15
        intro x
        obtain ⟨l', rfl⟩ := exists_lane x
        show _ = scrSum d L (0 : Fin 2) fr kk.val (k2_lt kk) ((Rect.unit (s := S2x4x128) (k5_off5 kk) S1x1x16.size (k5_off5_inb kk)).emb (ix3 (0 : Fin 1) (0 : Fin 1) l'))
        simp only [Cert.Proof.KI.k5_pay30_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off4 kk (BitVec.ofNat 32 k.val)) S1x1x16.size (k5_off4_inb kk k)).toLoadRect fr (ix3 (0 : Fin 1) (0 : Fin 1) l')) rfl ?_
        refine (congrArg tree32 (funext fun k => ld_lane d L _ (0 : Fin 2) (32 * kk.val + k.val) 0 (by have := k2_lt kk; omega) (by omega) (k5_off4_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 0 + l'.val = k5_off5 kk 2 + 1 * l'.val
        rw [k5_off5_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (0 : Fin 2) (⟨kk.val, k2_lt kk⟩ : Fin 4) (⟨16 * 0 + l.val, by omega⟩ : Fin 128)) ∈ (Rect.unit (s := S2x4x128) (k5_off5 kk) S1x1x16.size (k5_off5_inb kk)).set
        rw [Rect.mem_set_unit, k5_off5_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (0 : Fin 2) (⟨kk.val, k2_lt kk⟩ : Fin 4) (⟨16 * 1 + l.val, by omega⟩ : Fin 128)) ∈ (Rect.unit (s := S2x4x128) (k5_off7 kk) S1x1x16.size (k5_off7_inb kk)).set
        rw [Rect.mem_set_unit, k5_off7_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (0 : Fin 2) (⟨kk.val, k2_lt kk⟩ : Fin 4) (⟨16 * 2 + l.val, by omega⟩ : Fin 128)) ∈ (Rect.unit (s := S2x4x128) (k5_off9 kk) S1x1x16.size (k5_off9_inb kk)).set
        rw [Rect.mem_set_unit, k5_off9_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (0 : Fin 2) (⟨kk.val, k2_lt kk⟩ : Fin 4) (⟨16 * 3 + l.val, by omega⟩ : Fin 128)) ∈ (Rect.unit (s := S2x4x128) (k5_off11 kk) S1x1x16.size (k5_off11_inb kk)).set
        rw [Rect.mem_set_unit, k5_off11_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (0 : Fin 2) (⟨kk.val, k2_lt kk⟩ : Fin 4) (⟨16 * 4 + l.val, by omega⟩ : Fin 128)) ∈ (Rect.unit (s := S2x4x128) (k5_off13 kk) S1x1x16.size (k5_off13_inb kk)).set
        rw [Rect.mem_set_unit, k5_off13_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (0 : Fin 2) (⟨kk.val, k2_lt kk⟩ : Fin 4) (⟨16 * 5 + l.val, by omega⟩ : Fin 128)) ∈ (Rect.unit (s := S2x4x128) (k5_off15 kk) S1x1x16.size (k5_off15_inb kk)).set
        rw [Rect.mem_set_unit, k5_off15_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (0 : Fin 2) (⟨kk.val, k2_lt kk⟩ : Fin 4) (⟨16 * 6 + l.val, by omega⟩ : Fin 128)) ∈ (Rect.unit (s := S2x4x128) (k5_off17 kk) S1x1x16.size (k5_off17_inb kk)).set
        rw [Rect.mem_set_unit, k5_off17_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (0 : Fin 2) (⟨kk.val, k2_lt kk⟩ : Fin 4) (⟨16 * 7 + l.val, by omega⟩ : Fin 128)) ∈ (Rect.unit (s := S2x4x128) (k5_off19 kk) S1x1x16.size (k5_off19_inb kk)).set
        rw [Rect.mem_set_unit, k5_off19_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc5_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k5_off19 kk) S1x1x16.size (k5_off19_inb kk)).set := hm
      rw [Rect.mem_set_unit, k5_off19_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 6
      intro hm
      have hm' : y ∈ (Rect.unit (s := S2x4x128) (k5_off17 kk) S1x1x16.size (k5_off17_inb kk)).set := hm
      rw [Rect.mem_set_unit, k5_off17_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 5
      intro hm
      have hm' : y ∈ (Rect.unit (s := S2x4x128) (k5_off15 kk) S1x1x16.size (k5_off15_inb kk)).set := hm
      rw [Rect.mem_set_unit, k5_off15_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 4
      intro hm
      have hm' : y ∈ (Rect.unit (s := S2x4x128) (k5_off13 kk) S1x1x16.size (k5_off13_inb kk)).set := hm
      rw [Rect.mem_set_unit, k5_off13_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 3
      intro hm
      have hm' : y ∈ (Rect.unit (s := S2x4x128) (k5_off11 kk) S1x1x16.size (k5_off11_inb kk)).set := hm
      rw [Rect.mem_set_unit, k5_off11_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 2
      intro hm
      have hm' : y ∈ (Rect.unit (s := S2x4x128) (k5_off9 kk) S1x1x16.size (k5_off9_inb kk)).set := hm
      rw [Rect.mem_set_unit, k5_off9_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 1
      intro hm
      have hm' : y ∈ (Rect.unit (s := S2x4x128) (k5_off7 kk) S1x1x16.size (k5_off7_inb kk)).set := hm
      rw [Rect.mem_set_unit, k5_off7_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 0
      intro hm
      have hm' : y ∈ (Rect.unit (s := S2x4x128) (k5_off5 kk) S1x1x16.size (k5_off5_inb kk)).set := hm
      rw [Rect.mem_set_unit, k5_off5_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩

set_option maxHeartbeats 4000000 in
/-- Trip `kk` of slot 0's inner loop while the output scratch is still held whole: the row scratch is only read; the output scratch ends with row `kk` of
    slot 0 at the trees of the 32 gathered rows, lane by lane, and is unchanged off that row.  (The contents are read
    through the whole buffer's view, `View.read … f = f`.) -/
theorem inner_trip0_first (k : Fin k5_t1_loop.trips) (kk : Fin k5_t2_loop.trips)
    (fr : Buf (Elt F) ((V d (cV L) (jV L)).loc cc5_scratch1)) (fob : Buf (Elt F) ((V d (cV L) (jV L)).loc cc5_scratch2))
    (v2 : BitVec 32) :
    iprop(((rwV).view.loc (V d (cV L) (jV L)) ↦[Finset.univ \ (rwK1).view.set]{fullShare} fr)
      ∗ ((obV).view.loc (V d (cV L) (jV L)) ↦{fullShare} fob))
      ⊢ (wp frame (wpE (defs₀ (F := F)) 𝒱₀ (V d (cV L) (jV L)) none) Set.univ
          (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k kk ())
          fun _ => iprop(((rwV).view.loc (V d (cV L) (jV L)) ↦[Finset.univ \ (rwK1).view.set]{fullShare} fr)
            ∗ ∃ fob'' : Buf (Elt F) ((V d (cV L) (jV L)).loc cc5_scratch2), ((obV).view.loc (V d (cV L) (jV L)) ↦{fullShare} fob'')
              ∗ ⌜(∀ (g : Fin 8) (l : Fin 16), View.read (Elt F) (Memref.whole cc5_scratch2).view fob'' (ix3 (0 : Fin 2) (⟨kk.val, k2_lt kk⟩ : Fin 4) (⟨16 * g.val + l.val, by omega⟩ : Fin 128))
                    = scrSum d L (0 : Fin 2) fr kk.val (k2_lt kk) (ix3 (0 : Fin 2) (⟨kk.val, k2_lt kk⟩ : Fin 4) (⟨16 * g.val + l.val, by omega⟩ : Fin 128)))
                ∧ (∀ y : S2x4x128.Idx, ¬((y 0).val = 0 ∧ (y 1).val = kk.val) →
                    View.read (Elt F) (Memref.whole cc5_scratch2).view fob'' y = View.read (Elt F) (Memref.whole cc5_scratch2).view fob y)⌝) : sProp 𝕄) := by
  iintro ⟨Hrw, Hob⟩
  unfold k5_t2_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc5_scratch2).view fob (scrSum d L (0 : Fin 2) fr kk.val (k2_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (0 : Fin 2) fr kk.val (k2_lt kk) ((Rect.unit (s := S2x4x128) (k5_off19 kk) S1x1x16.size (k5_off19_inb kk)).emb (ix3 (0 : Fin 1) (0 : Fin 1) l'))
        simp only [Cert.Proof.KI.k5_pay569_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off18 kk (BitVec.ofNat 32 k.val)) S1x1x16.size (k5_off18_inb kk k)).toLoadRect fr (ix3 (0 : Fin 1) (0 : Fin 1) l')) rfl ?_
        refine (congrArg tree32 (funext fun k => ld_lane d L _ (0 : Fin 2) (32 * kk.val + k.val) 112 (by have := k2_lt kk; omega) (by omega) (k5_off18_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 112 + l'.val = k5_off19 kk 2 + 1 * l'.val
        rw [k5_off19_eq]
        show 112 + l'.val = 112 + 1 * l'.val
        omega
      · -- lane group 6: lanes 96 … 111
        intro x
        obtain ⟨l', rfl⟩ := exists_lane x
        show _ = scrSum d L (0 : Fin 2) fr kk.val (k2_lt kk) ((Rect.unit (s := S2x4x128) (k5_off17 kk) S1x1x16.size (k5_off17_inb kk)).emb (ix3 (0 : Fin 1) (0 : Fin 1) l'))
        simp only [Cert.Proof.KI.k5_pay241_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off16 kk (BitVec.ofNat 32 k.val)) S1x1x16.size (k5_off16_inb kk k)).toLoadRect fr (ix3 (0 : Fin 1) (0 : Fin 1) l')) rfl ?_
        refine (congrArg tree32 (funext fun k => ld_lane d L _ (0 : Fin 2) (32 * kk.val + k.val) 96 (by have := k2_lt kk; omega) (by omega) (k5_off16_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 96 + l'.val = k5_off17 kk 2 + 1 * l'.val
        rw [k5_off17_eq]
        show 96 + l'.val = 96 + 1 * l'.val
        omega
      · -- lane group 5: lanes 80 … 95
        intro x
        obtain ⟨l', rfl⟩ := exists_lane x
        show _ = scrSum d L (0 : Fin 2) fr kk.val (k2_lt kk) ((Rect.unit (s := S2x4x128) (k5_off15 kk) S1x1x16.size (k5_off15_inb kk)).emb (ix3 (0 : Fin 1) (0 : Fin 1) l'))
        simp only [Cert.Proof.KI.k5_pay197_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off14 kk (BitVec.ofNat 32 k.val)) S1x1x16.size (k5_off14_inb kk k)).toLoadRect fr (ix3 (0 : Fin 1) (0 : Fin 1) l')) rfl ?_
        refine (congrArg tree32 (funext fun k => ld_lane d L _ (0 : Fin 2) (32 * kk.val + k.val) 80 (by have := k2_lt kk; omega) (by omega) (k5_off14_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 80 + l'.val = k5_off15 kk 2 + 1 * l'.val
        rw [k5_off15_eq]
        show 80 + l'.val = 80 + 1 * l'.val
        omega
      · -- lane group 4: lanes 64 … 79
        intro x
        obtain ⟨l', rfl⟩ := exists_lane x
        show _ = scrSum d L (0 : Fin 2) fr kk.val (k2_lt kk) ((Rect.unit (s := S2x4x128) (k5_off13 kk) S1x1x16.size (k5_off13_inb kk)).emb (ix3 (0 : Fin 1) (0 : Fin 1) l'))
        simp only [Cert.Proof.KI.k5_pay158_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off12 kk (BitVec.ofNat 32 k.val)) S1x1x16.size (k5_off12_inb kk k)).toLoadRect fr (ix3 (0 : Fin 1) (0 : Fin 1) l')) rfl ?_
        refine (congrArg tree32 (funext fun k => ld_lane d L _ (0 : Fin 2) (32 * kk.val + k.val) 64 (by have := k2_lt kk; omega) (by omega) (k5_off12_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 64 + l'.val = k5_off13 kk 2 + 1 * l'.val
        rw [k5_off13_eq]
        show 64 + l'.val = 64 + 1 * l'.val
        omega
      · -- lane group 3: lanes 48 … 63
        intro x
        obtain ⟨l', rfl⟩ := exists_lane x
        show _ = scrSum d L (0 : Fin 2) fr kk.val (k2_lt kk) ((Rect.unit (s := S2x4x128) (k5_off11 kk) S1x1x16.size (k5_off11_inb kk)).emb (ix3 (0 : Fin 1) (0 : Fin 1) l'))
        simp only [Cert.Proof.KI.k5_pay124_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off10 kk (BitVec.ofNat 32 k.val)) S1x1x16.size (k5_off10_inb kk k)).toLoadRect fr (ix3 (0 : Fin 1) (0 : Fin 1) l')) rfl ?_
        refine (congrArg tree32 (funext fun k => ld_lane d L _ (0 : Fin 2) (32 * kk.val + k.val) 48 (by have := k2_lt kk; omega) (by omega) (k5_off10_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 48 + l'.val = k5_off11 kk 2 + 1 * l'.val
        rw [k5_off11_eq]
        show 48 + l'.val = 48 + 1 * l'.val
        omega
      · -- lane group 2: lanes 32 … 47
        intro x
        obtain ⟨l', rfl⟩ := exists_lane x
        show _ = scrSum d L (0 : Fin 2) fr kk.val (k2_lt kk) ((Rect.unit (s := S2x4x128) (k5_off9 kk) S1x1x16.size (k5_off9_inb kk)).emb (ix3 (0 : Fin 1) (0 : Fin 1) l'))
        simp only [Cert.Proof.KI.k5_pay92_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off8 kk (BitVec.ofNat 32 k.val)) S1x1x16.size (k5_off8_inb kk k)).toLoadRect fr (ix3 (0 : Fin 1) (0 : Fin 1) l')) rfl ?_
        refine (congrArg tree32 (funext fun k => ld_lane d L _ (0 : Fin 2) (32 * kk.val + k.val) 32 (by have := k2_lt kk; omega) (by omega) (k5_off8_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 32 + l'.val = k5_off9 kk 2 + 1 * l'.val
        rw [k5_off9_eq]
        show 32 + l'.val = 32 + 1 * l'.val
        omega
      · -- lane group 1: lanes 16 … 31
        intro x
        obtain ⟨l', rfl⟩ := exists_lane x
        show _ = scrSum d L (0 : Fin 2) fr kk.val (k2_lt kk) ((Rect.unit (s := S2x4x128) (k5_off7 kk) S1x1x16.size (k5_off7_inb kk)).emb (ix3 (0 : Fin 1) (0 : Fin 1) l'))
        simp only [Cert.Proof.KI.k5_pay61_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off6 kk (BitVec.ofNat 32 k.val)) S1x1x16.size (k5_off6_inb kk k)).toLoadRect fr (ix3 (0 : Fin 1) (0 : Fin 1) l')) rfl ?_
        refine (congrArg tree32 (funext fun k => ld_lane d L _ (0 : Fin 2) (32 * kk.val + k.val) 16 (by have := k2_lt kk; omega) (by omega) (k5_off6_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 16 + l'.val = k5_off7 kk 2 + 1 * l'.val
        rw [k5_off7_eq]
        show 16 + l'.val = 16 + 1 * l'.val
        omega
      · -- lane group 0: lanes 0 … 15
        intro x
        obtain ⟨l', rfl⟩ := exists_lane x
        show _ = scrSum d L (0 : Fin 2) fr kk.val (k2_lt kk) ((Rect.unit (s := S2x4x128) (k5_off5 kk) S1x1x16.size (k5_off5_inb kk)).emb (ix3 (0 : Fin 1) (0 : Fin 1) l'))
        simp only [Cert.Proof.KI.k5_pay30_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off4 kk (BitVec.ofNat 32 k.val)) S1x1x16.size (k5_off4_inb kk k)).toLoadRect fr (ix3 (0 : Fin 1) (0 : Fin 1) l')) rfl ?_
        refine (congrArg tree32 (funext fun k => ld_lane d L _ (0 : Fin 2) (32 * kk.val + k.val) 0 (by have := k2_lt kk; omega) (by omega) (k5_off4_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 0 + l'.val = k5_off5 kk 2 + 1 * l'.val
        rw [k5_off5_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (0 : Fin 2) (⟨kk.val, k2_lt kk⟩ : Fin 4) (⟨16 * 0 + l.val, by omega⟩ : Fin 128)) ∈ (Rect.unit (s := S2x4x128) (k5_off5 kk) S1x1x16.size (k5_off5_inb kk)).set
        rw [Rect.mem_set_unit, k5_off5_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (0 : Fin 2) (⟨kk.val, k2_lt kk⟩ : Fin 4) (⟨16 * 1 + l.val, by omega⟩ : Fin 128)) ∈ (Rect.unit (s := S2x4x128) (k5_off7 kk) S1x1x16.size (k5_off7_inb kk)).set
        rw [Rect.mem_set_unit, k5_off7_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (0 : Fin 2) (⟨kk.val, k2_lt kk⟩ : Fin 4) (⟨16 * 2 + l.val, by omega⟩ : Fin 128)) ∈ (Rect.unit (s := S2x4x128) (k5_off9 kk) S1x1x16.size (k5_off9_inb kk)).set
        rw [Rect.mem_set_unit, k5_off9_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (0 : Fin 2) (⟨kk.val, k2_lt kk⟩ : Fin 4) (⟨16 * 3 + l.val, by omega⟩ : Fin 128)) ∈ (Rect.unit (s := S2x4x128) (k5_off11 kk) S1x1x16.size (k5_off11_inb kk)).set
        rw [Rect.mem_set_unit, k5_off11_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (0 : Fin 2) (⟨kk.val, k2_lt kk⟩ : Fin 4) (⟨16 * 4 + l.val, by omega⟩ : Fin 128)) ∈ (Rect.unit (s := S2x4x128) (k5_off13 kk) S1x1x16.size (k5_off13_inb kk)).set
        rw [Rect.mem_set_unit, k5_off13_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (0 : Fin 2) (⟨kk.val, k2_lt kk⟩ : Fin 4) (⟨16 * 5 + l.val, by omega⟩ : Fin 128)) ∈ (Rect.unit (s := S2x4x128) (k5_off15 kk) S1x1x16.size (k5_off15_inb kk)).set
        rw [Rect.mem_set_unit, k5_off15_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (0 : Fin 2) (⟨kk.val, k2_lt kk⟩ : Fin 4) (⟨16 * 6 + l.val, by omega⟩ : Fin 128)) ∈ (Rect.unit (s := S2x4x128) (k5_off17 kk) S1x1x16.size (k5_off17_inb kk)).set
        rw [Rect.mem_set_unit, k5_off17_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (0 : Fin 2) (⟨kk.val, k2_lt kk⟩ : Fin 4) (⟨16 * 7 + l.val, by omega⟩ : Fin 128)) ∈ (Rect.unit (s := S2x4x128) (k5_off19 kk) S1x1x16.size (k5_off19_inb kk)).set
        rw [Rect.mem_set_unit, k5_off19_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc5_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k5_off19 kk) S1x1x16.size (k5_off19_inb kk)).set := hm
      rw [Rect.mem_set_unit, k5_off19_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 6
      intro hm
      have hm' : y ∈ (Rect.unit (s := S2x4x128) (k5_off17 kk) S1x1x16.size (k5_off17_inb kk)).set := hm
      rw [Rect.mem_set_unit, k5_off17_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 5
      intro hm
      have hm' : y ∈ (Rect.unit (s := S2x4x128) (k5_off15 kk) S1x1x16.size (k5_off15_inb kk)).set := hm
      rw [Rect.mem_set_unit, k5_off15_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 4
      intro hm
      have hm' : y ∈ (Rect.unit (s := S2x4x128) (k5_off13 kk) S1x1x16.size (k5_off13_inb kk)).set := hm
      rw [Rect.mem_set_unit, k5_off13_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 3
      intro hm
      have hm' : y ∈ (Rect.unit (s := S2x4x128) (k5_off11 kk) S1x1x16.size (k5_off11_inb kk)).set := hm
      rw [Rect.mem_set_unit, k5_off11_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 2
      intro hm
      have hm' : y ∈ (Rect.unit (s := S2x4x128) (k5_off9 kk) S1x1x16.size (k5_off9_inb kk)).set := hm
      rw [Rect.mem_set_unit, k5_off9_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 1
      intro hm
      have hm' : y ∈ (Rect.unit (s := S2x4x128) (k5_off7 kk) S1x1x16.size (k5_off7_inb kk)).set := hm
      rw [Rect.mem_set_unit, k5_off7_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 0
      intro hm
      have hm' : y ∈ (Rect.unit (s := S2x4x128) (k5_off5 kk) S1x1x16.size (k5_off5_inb kk)).set := hm
      rw [Rect.mem_set_unit, k5_off5_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩

set_option maxHeartbeats 4000000 in
/-- Trip `kk` of slot 1's inner loop: the row scratch is only read; the output scratch ends with row `kk` of
    slot 1 at the trees of the 32 gathered rows, lane by lane, and is unchanged off that row.  (The contents are read
    through the whole buffer's view, `View.read … f = f`.) -/
theorem inner_trip1 (k : Fin k5_t1_loop.trips) (kk : Fin k5_t3_loop.trips)
    (fr : Buf (Elt F) ((V d (cV L) (jV L)).loc cc5_scratch1)) (fob : Buf (Elt F) ((V d (cV L) (jV L)).loc cc5_scratch2))
    (v2 : BitVec 32) (arg11 : BitVec 32) :
    iprop(((rwV).view.loc (V d (cV L) (jV L)) ↦[Finset.univ \ (rwK0).view.set]{fullShare} fr)
      ∗ ((obV).view.loc (V d (cV L) (jV L)) ↦[Finset.univ \ (obK0).view.set]{fullShare} fob))
      ⊢ (wp frame (wpE (defs₀ (F := F)) 𝒱₀ (V d (cV L) (jV L)) none) Set.univ
          (k5_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k arg11 kk ())
          fun _ => iprop(((rwV).view.loc (V d (cV L) (jV L)) ↦[Finset.univ \ (rwK0).view.set]{fullShare} fr)
            ∗ ∃ fob'' : Buf (Elt F) ((V d (cV L) (jV L)).loc cc5_scratch2), ((obV).view.loc (V d (cV L) (jV L)) ↦[Finset.univ \ (obK0).view.set]{fullShare} fob'')
              ∗ ⌜(∀ (g : Fin 8) (l : Fin 16), View.read (Elt F) (Memref.whole cc5_scratch2).view fob'' (ix3 (1 : Fin 2) (⟨kk.val, k3_lt kk⟩ : Fin 4) (⟨16 * g.val + l.val, by omega⟩ : Fin 128))
                    = scrSum d L (1 : Fin 2) fr kk.val (k3_lt kk) (ix3 (1 : Fin 2) (⟨kk.val, k3_lt kk⟩ : Fin 4) (⟨16 * g.val + l.val, by omega⟩ : Fin 128)))
                ∧ (∀ y : S2x4x128.Idx, ¬((y 0).val = 1 ∧ (y 1).val = kk.val) →
                    View.read (Elt F) (Memref.whole cc5_scratch2).view fob'' y = View.read (Elt F) (Memref.whole cc5_scratch2).view fob y)⌝) : sProp 𝕄) := by
  iintro ⟨Hrw, Hob⟩
  unfold k5_t3_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc5_scratch2).view fob (scrSum d L (1 : Fin 2) fr kk.val (k3_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (1 : Fin 2) fr kk.val (k3_lt kk) ((Rect.unit (s := S2x4x128) (k5_off38 kk) S1x1x16.size (k5_off38_inb kk)).emb (ix3 (0 : Fin 1) (0 : Fin 1) l'))
        simp only [Cert.Proof.KI.k5_pay570_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off37 kk (BitVec.ofNat 32 k.val)) S1x1x16.size (k5_off37_inb kk k)).toLoadRect fr (ix3 (0 : Fin 1) (0 : Fin 1) l')) rfl ?_
        refine (congrArg tree32 (funext fun k => ld_lane d L _ (1 : Fin 2) (32 * kk.val + k.val) 112 (by have := k3_lt kk; omega) (by omega) (k5_off37_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 112 + l'.val = k5_off38 kk 2 + 1 * l'.val
        rw [k5_off38_eq]
        show 112 + l'.val = 112 + 1 * l'.val
        omega
      · -- lane group 6: lanes 96 … 111
        intro x
        obtain ⟨l', rfl⟩ := exists_lane x
        show _ = scrSum d L (1 : Fin 2) fr kk.val (k3_lt kk) ((Rect.unit (s := S2x4x128) (k5_off36 kk) S1x1x16.size (k5_off36_inb kk)).emb (ix3 (0 : Fin 1) (0 : Fin 1) l'))
        simp only [Cert.Proof.KI.k5_pay525_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off35 kk (BitVec.ofNat 32 k.val)) S1x1x16.size (k5_off35_inb kk k)).toLoadRect fr (ix3 (0 : Fin 1) (0 : Fin 1) l')) rfl ?_
        refine (congrArg tree32 (funext fun k => ld_lane d L _ (1 : Fin 2) (32 * kk.val + k.val) 96 (by have := k3_lt kk; omega) (by omega) (k5_off35_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 96 + l'.val = k5_off36 kk 2 + 1 * l'.val
        rw [k5_off36_eq]
        show 96 + l'.val = 96 + 1 * l'.val
        omega
      · -- lane group 5: lanes 80 … 95
        intro x
        obtain ⟨l', rfl⟩ := exists_lane x
        show _ = scrSum d L (1 : Fin 2) fr kk.val (k3_lt kk) ((Rect.unit (s := S2x4x128) (k5_off34 kk) S1x1x16.size (k5_off34_inb kk)).emb (ix3 (0 : Fin 1) (0 : Fin 1) l'))
        simp only [Cert.Proof.KI.k5_pay481_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off33 kk (BitVec.ofNat 32 k.val)) S1x1x16.size (k5_off33_inb kk k)).toLoadRect fr (ix3 (0 : Fin 1) (0 : Fin 1) l')) rfl ?_
        refine (congrArg tree32 (funext fun k => ld_lane d L _ (1 : Fin 2) (32 * kk.val + k.val) 80 (by have := k3_lt kk; omega) (by omega) (k5_off33_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 80 + l'.val = k5_off34 kk 2 + 1 * l'.val
        rw [k5_off34_eq]
        show 80 + l'.val = 80 + 1 * l'.val
        omega
      · -- lane group 4: lanes 64 … 79
        intro x
        obtain ⟨l', rfl⟩ := exists_lane x
        show _ = scrSum d L (1 : Fin 2) fr kk.val (k3_lt kk) ((Rect.unit (s := S2x4x128) (k5_off32 kk) S1x1x16.size (k5_off32_inb kk)).emb (ix3 (0 : Fin 1) (0 : Fin 1) l'))
        simp only [Cert.Proof.KI.k5_pay442_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off31 kk (BitVec.ofNat 32 k.val)) S1x1x16.size (k5_off31_inb kk k)).toLoadRect fr (ix3 (0 : Fin 1) (0 : Fin 1) l')) rfl ?_
        refine (congrArg tree32 (funext fun k => ld_lane d L _ (1 : Fin 2) (32 * kk.val + k.val) 64 (by have := k3_lt kk; omega) (by omega) (k5_off31_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 64 + l'.val = k5_off32 kk 2 + 1 * l'.val
        rw [k5_off32_eq]
        show 64 + l'.val = 64 + 1 * l'.val
        omega
      · -- lane group 3: lanes 48 … 63
        intro x
        obtain ⟨l', rfl⟩ := exists_lane x
        show _ = scrSum d L (1 : Fin 2) fr kk.val (k3_lt kk) ((Rect.unit (s := S2x4x128) (k5_off30 kk) S1x1x16.size (k5_off30_inb kk)).emb (ix3 (0 : Fin 1) (0 : Fin 1) l'))
        simp only [Cert.Proof.KI.k5_pay408_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off29 kk (BitVec.ofNat 32 k.val)) S1x1x16.size (k5_off29_inb kk k)).toLoadRect fr (ix3 (0 : Fin 1) (0 : Fin 1) l')) rfl ?_
        refine (congrArg tree32 (funext fun k => ld_lane d L _ (1 : Fin 2) (32 * kk.val + k.val) 48 (by have := k3_lt kk; omega) (by omega) (k5_off29_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 48 + l'.val = k5_off30 kk 2 + 1 * l'.val
        rw [k5_off30_eq]
        show 48 + l'.val = 48 + 1 * l'.val
        omega
      · -- lane group 2: lanes 32 … 47
        intro x
        obtain ⟨l', rfl⟩ := exists_lane x
        show _ = scrSum d L (1 : Fin 2) fr kk.val (k3_lt kk) ((Rect.unit (s := S2x4x128) (k5_off28 kk) S1x1x16.size (k5_off28_inb kk)).emb (ix3 (0 : Fin 1) (0 : Fin 1) l'))
        simp only [Cert.Proof.KI.k5_pay376_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off27 kk (BitVec.ofNat 32 k.val)) S1x1x16.size (k5_off27_inb kk k)).toLoadRect fr (ix3 (0 : Fin 1) (0 : Fin 1) l')) rfl ?_
        refine (congrArg tree32 (funext fun k => ld_lane d L _ (1 : Fin 2) (32 * kk.val + k.val) 32 (by have := k3_lt kk; omega) (by omega) (k5_off27_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 32 + l'.val = k5_off28 kk 2 + 1 * l'.val
        rw [k5_off28_eq]
        show 32 + l'.val = 32 + 1 * l'.val
        omega
      · -- lane group 1: lanes 16 … 31
        intro x
        obtain ⟨l', rfl⟩ := exists_lane x
        show _ = scrSum d L (1 : Fin 2) fr kk.val (k3_lt kk) ((Rect.unit (s := S2x4x128) (k5_off26 kk) S1x1x16.size (k5_off26_inb kk)).emb (ix3 (0 : Fin 1) (0 : Fin 1) l'))
        simp only [Cert.Proof.KI.k5_pay345_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off25 kk (BitVec.ofNat 32 k.val)) S1x1x16.size (k5_off25_inb kk k)).toLoadRect fr (ix3 (0 : Fin 1) (0 : Fin 1) l')) rfl ?_
        refine (congrArg tree32 (funext fun k => ld_lane d L _ (1 : Fin 2) (32 * kk.val + k.val) 16 (by have := k3_lt kk; omega) (by omega) (k5_off25_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 16 + l'.val = k5_off26 kk 2 + 1 * l'.val
        rw [k5_off26_eq]
        show 16 + l'.val = 16 + 1 * l'.val
        omega
      · -- lane group 0: lanes 0 … 15
        intro x
        obtain ⟨l', rfl⟩ := exists_lane x
        show _ = scrSum d L (1 : Fin 2) fr kk.val (k3_lt kk) ((Rect.unit (s := S2x4x128) (k5_off24 kk) S1x1x16.size (k5_off24_inb kk)).emb (ix3 (0 : Fin 1) (0 : Fin 1) l'))
        simp only [Cert.Proof.KI.k5_pay314_lane]
        sl_unfold_run_names
        simp only [Cert.Proof.KI.k5_pay1_lane, Cert.Proof.KI.k5_pay2_lane, Cert.Proof.KI.k5_pay3_lane, Cert.Proof.KI.k5_pay4_lane, Cert.Proof.KI.k5_pay5_lane, Cert.Proof.KI.k5_pay6_lane, Cert.Proof.KI.k5_pay7_lane, Cert.Proof.KI.k5_pay8_lane, Cert.Proof.KI.k5_pay9_lane, Cert.Proof.KI.k5_pay10_lane, Cert.Proof.KI.k5_pay11_lane, Cert.Proof.KI.k5_pay12_lane, Cert.Proof.KI.k5_pay13_lane, Cert.Proof.KI.k5_pay14_lane, Cert.Proof.KI.k5_pay15_lane, Cert.Proof.KI.k5_pay16_lane, Cert.Proof.KI.k5_pay17_lane, Cert.Proof.KI.k5_pay18_lane, Cert.Proof.KI.k5_pay19_lane, Cert.Proof.KI.k5_pay20_lane, Cert.Proof.KI.k5_pay21_lane, Cert.Proof.KI.k5_pay22_lane, Cert.Proof.KI.k5_pay23_lane, Cert.Proof.KI.k5_pay24_lane, Cert.Proof.KI.k5_pay25_lane, Cert.Proof.KI.k5_pay26_lane, Cert.Proof.KI.k5_pay27_lane, Cert.Proof.KI.k5_pay28_lane, Cert.Proof.KI.k5_pay29_lane, Cert.Proof.KI.k5_pay30_lane, Cert.Proof.KI.k5_pay31_lane, Cert.Proof.KI.k5_pay32_lane, Cert.Proof.KI.k5_pay33_lane, Cert.Proof.KI.k5_pay34_lane, Cert.Proof.KI.k5_pay35_lane, Cert.Proof.KI.k5_pay36_lane, Cert.Proof.KI.k5_pay37_lane, Cert.Proof.KI.k5_pay38_lane, Cert.Proof.KI.k5_pay39_lane, Cert.Proof.KI.k5_pay40_lane, Cert.Proof.KI.k5_pay41_lane, Cert.Proof.KI.k5_pay42_lane, Cert.Proof.KI.k5_pay43_lane, Cert.Proof.KI.k5_pay44_lane, Cert.Proof.KI.k5_pay45_lane, Cert.Proof.KI.k5_pay46_lane, Cert.Proof.KI.k5_pay47_lane, Cert.Proof.KI.k5_pay48_lane, Cert.Proof.KI.k5_pay49_lane, Cert.Proof.KI.k5_pay50_lane, Cert.Proof.KI.k5_pay51_lane, Cert.Proof.KI.k5_pay52_lane, Cert.Proof.KI.k5_pay53_lane, Cert.Proof.KI.k5_pay54_lane, Cert.Proof.KI.k5_pay55_lane, Cert.Proof.KI.k5_pay56_lane, Cert.Proof.KI.k5_pay57_lane, Cert.Proof.KI.k5_pay58_lane, Cert.Proof.KI.k5_pay59_lane, Cert.Proof.KI.k5_pay60_lane, Cert.Proof.KI.k5_pay61_lane, Cert.Proof.KI.k5_pay62_lane, Cert.Proof.KI.k5_pay63_lane, Cert.Proof.KI.k5_pay64_lane, Cert.Proof.KI.k5_pay65_lane, Cert.Proof.KI.k5_pay66_lane, Cert.Proof.KI.k5_pay67_lane, Cert.Proof.KI.k5_pay68_lane, Cert.Proof.KI.k5_pay69_lane, Cert.Proof.KI.k5_pay70_lane, Cert.Proof.KI.k5_pay71_lane, Cert.Proof.KI.k5_pay72_lane, Cert.Proof.KI.k5_pay73_lane, Cert.Proof.KI.k5_pay74_lane, Cert.Proof.KI.k5_pay75_lane, Cert.Proof.KI.k5_pay76_lane, Cert.Proof.KI.k5_pay77_lane, Cert.Proof.KI.k5_pay78_lane, Cert.Proof.KI.k5_pay79_lane, Cert.Proof.KI.k5_pay80_lane, Cert.Proof.KI.k5_pay81_lane, Cert.Proof.KI.k5_pay82_lane, Cert.Proof.KI.k5_pay83_lane, Cert.Proof.KI.k5_pay84_lane, Cert.Proof.KI.k5_pay85_lane, Cert.Proof.KI.k5_pay86_lane, Cert.Proof.KI.k5_pay87_lane, Cert.Proof.KI.k5_pay88_lane, Cert.Proof.KI.k5_pay89_lane, Cert.Proof.KI.k5_pay90_lane, Cert.Proof.KI.k5_pay91_lane, Cert.Proof.KI.k5_pay92_lane, Cert.Proof.KI.k5_pay93_lane, Cert.Proof.KI.k5_pay94_lane, Cert.Proof.KI.k5_pay95_lane, Cert.Proof.KI.k5_pay96_lane, Cert.Proof.KI.k5_pay97_lane, Cert.Proof.KI.k5_pay98_lane, Cert.Proof.KI.k5_pay99_lane, Cert.Proof.KI.k5_pay100_lane, Cert.Proof.KI.k5_pay101_lane, Cert.Proof.KI.k5_pay102_lane, Cert.Proof.KI.k5_pay103_lane, Cert.Proof.KI.k5_pay104_lane, Cert.Proof.KI.k5_pay105_lane, Cert.Proof.KI.k5_pay106_lane, Cert.Proof.KI.k5_pay107_lane, Cert.Proof.KI.k5_pay108_lane, Cert.Proof.KI.k5_pay109_lane, Cert.Proof.KI.k5_pay110_lane, Cert.Proof.KI.k5_pay111_lane, Cert.Proof.KI.k5_pay112_lane, Cert.Proof.KI.k5_pay113_lane, Cert.Proof.KI.k5_pay114_lane, Cert.Proof.KI.k5_pay115_lane, Cert.Proof.KI.k5_pay116_lane, Cert.Proof.KI.k5_pay117_lane, Cert.Proof.KI.k5_pay118_lane, Cert.Proof.KI.k5_pay119_lane, Cert.Proof.KI.k5_pay120_lane, Cert.Proof.KI.k5_pay121_lane, Cert.Proof.KI.k5_pay122_lane, Cert.Proof.KI.k5_pay123_lane, Cert.Proof.KI.k5_pay124_lane, Cert.Proof.KI.k5_pay125_lane, Cert.Proof.KI.k5_pay126_lane, Cert.Proof.KI.k5_pay127_lane, Cert.Proof.KI.k5_pay128_lane, Cert.Proof.KI.k5_pay129_lane, Cert.Proof.KI.k5_pay130_lane, Cert.Proof.KI.k5_pay131_lane, Cert.Proof.KI.k5_pay132_lane, Cert.Proof.KI.k5_pay133_lane, Cert.Proof.KI.k5_pay134_lane, Cert.Proof.KI.k5_pay135_lane, Cert.Proof.KI.k5_pay136_lane, Cert.Proof.KI.k5_pay137_lane, Cert.Proof.KI.k5_pay138_lane, Cert.Proof.KI.k5_pay139_lane, Cert.Proof.KI.k5_pay140_lane, Cert.Proof.KI.k5_pay141_lane, Cert.Proof.KI.k5_pay142_lane, Cert.Proof.KI.k5_pay143_lane, Cert.Proof.KI.k5_pay144_lane, Cert.Proof.KI.k5_pay145_lane, Cert.Proof.KI.k5_pay146_lane, Cert.Proof.KI.k5_pay147_lane, Cert.Proof.KI.k5_pay148_lane, Cert.Proof.KI.k5_pay149_lane, Cert.Proof.KI.k5_pay150_lane, Cert.Proof.KI.k5_pay151_lane, Cert.Proof.KI.k5_pay152_lane, Cert.Proof.KI.k5_pay153_lane, Cert.Proof.KI.k5_pay154_lane, Cert.Proof.KI.k5_pay155_lane, Cert.Proof.KI.k5_pay156_lane, Cert.Proof.KI.k5_pay157_lane, Cert.Proof.KI.k5_pay158_lane, Cert.Proof.KI.k5_pay159_lane, Cert.Proof.KI.k5_pay160_lane, Cert.Proof.KI.k5_pay161_lane, Cert.Proof.KI.k5_pay162_lane, Cert.Proof.KI.k5_pay163_lane, Cert.Proof.KI.k5_pay164_lane, Cert.Proof.KI.k5_pay165_lane, Cert.Proof.KI.k5_pay166_lane, Cert.Proof.KI.k5_pay167_lane, Cert.Proof.KI.k5_pay168_lane, Cert.Proof.KI.k5_pay169_lane, Cert.Proof.KI.k5_pay170_lane, Cert.Proof.KI.k5_pay171_lane, Cert.Proof.KI.k5_pay172_lane, Cert.Proof.KI.k5_pay173_lane, Cert.Proof.KI.k5_pay174_lane, Cert.Proof.KI.k5_pay175_lane, Cert.Proof.KI.k5_pay176_lane, Cert.Proof.KI.k5_pay177_lane, Cert.Proof.KI.k5_pay178_lane, Cert.Proof.KI.k5_pay179_lane, Cert.Proof.KI.k5_pay180_lane, Cert.Proof.KI.k5_pay181_lane, Cert.Proof.KI.k5_pay182_lane, Cert.Proof.KI.k5_pay183_lane, Cert.Proof.KI.k5_pay184_lane, Cert.Proof.KI.k5_pay185_lane, Cert.Proof.KI.k5_pay186_lane, Cert.Proof.KI.k5_pay187_lane, Cert.Proof.KI.k5_pay188_lane, Cert.Proof.KI.k5_pay189_lane, Cert.Proof.KI.k5_pay190_lane, Cert.Proof.KI.k5_pay191_lane, Cert.Proof.KI.k5_pay192_lane, Cert.Proof.KI.k5_pay193_lane, Cert.Proof.KI.k5_pay194_lane, Cert.Proof.KI.k5_pay195_lane, Cert.Proof.KI.k5_pay196_lane, Cert.Proof.KI.k5_pay197_lane, Cert.Proof.KI.k5_pay198_lane, Cert.Proof.KI.k5_pay199_lane, Cert.Proof.KI.k5_pay200_lane, Cert.Proof.KI.k5_pay201_lane, Cert.Proof.KI.k5_pay202_lane, Cert.Proof.KI.k5_pay203_lane, Cert.Proof.KI.k5_pay204_lane, Cert.Proof.KI.k5_pay205_lane, Cert.Proof.KI.k5_pay206_lane, Cert.Proof.KI.k5_pay207_lane, Cert.Proof.KI.k5_pay208_lane, Cert.Proof.KI.k5_pay209_lane, Cert.Proof.KI.k5_pay210_lane, Cert.Proof.KI.k5_pay211_lane, Cert.Proof.KI.k5_pay212_lane, Cert.Proof.KI.k5_pay213_lane, Cert.Proof.KI.k5_pay214_lane, Cert.Proof.KI.k5_pay215_lane, Cert.Proof.KI.k5_pay216_lane, Cert.Proof.KI.k5_pay217_lane, Cert.Proof.KI.k5_pay218_lane, Cert.Proof.KI.k5_pay219_lane, Cert.Proof.KI.k5_pay220_lane, Cert.Proof.KI.k5_pay221_lane, Cert.Proof.KI.k5_pay222_lane, Cert.Proof.KI.k5_pay223_lane, Cert.Proof.KI.k5_pay224_lane, Cert.Proof.KI.k5_pay225_lane, Cert.Proof.KI.k5_pay226_lane, Cert.Proof.KI.k5_pay227_lane, Cert.Proof.KI.k5_pay228_lane, Cert.Proof.KI.k5_pay229_lane, Cert.Proof.KI.k5_pay230_lane, Cert.Proof.KI.k5_pay231_lane, Cert.Proof.KI.k5_pay232_lane, Cert.Proof.KI.k5_pay233_lane, Cert.Proof.KI.k5_pay234_lane, Cert.Proof.KI.k5_pay235_lane, Cert.Proof.KI.k5_pay236_lane, Cert.Proof.KI.k5_pay237_lane, Cert.Proof.KI.k5_pay238_lane, Cert.Proof.KI.k5_pay239_lane, Cert.Proof.KI.k5_pay240_lane, Cert.Proof.KI.k5_pay241_lane, Cert.Proof.KI.k5_pay242_lane, Cert.Proof.KI.k5_pay243_lane, Cert.Proof.KI.k5_pay244_lane, Cert.Proof.KI.k5_pay245_lane, Cert.Proof.KI.k5_pay246_lane, Cert.Proof.KI.k5_pay247_lane, Cert.Proof.KI.k5_pay248_lane, Cert.Proof.KI.k5_pay249_lane, Cert.Proof.KI.k5_pay250_lane, Cert.Proof.KI.k5_pay251_lane, Cert.Proof.KI.k5_pay252_lane, Cert.Proof.KI.k5_pay253_lane, Cert.Proof.KI.k5_pay254_lane, Cert.Proof.KI.k5_pay255_lane, Cert.Proof.KI.k5_pay256_lane, Cert.Proof.KI.k5_pay257_lane, Cert.Proof.KI.k5_pay258_lane, Cert.Proof.KI.k5_pay259_lane, Cert.Proof.KI.k5_pay260_lane, Cert.Proof.KI.k5_pay261_lane, Cert.Proof.KI.k5_pay262_lane, Cert.Proof.KI.k5_pay263_lane, Cert.Proof.KI.k5_pay264_lane, Cert.Proof.KI.k5_pay265_lane, Cert.Proof.KI.k5_pay266_lane, Cert.Proof.KI.k5_pay267_lane, Cert.Proof.KI.k5_pay268_lane, Cert.Proof.KI.k5_pay269_lane, Cert.Proof.KI.k5_pay270_lane, Cert.Proof.KI.k5_pay271_lane, Cert.Proof.KI.k5_pay272_lane, Cert.Proof.KI.k5_pay273_lane, Cert.Proof.KI.k5_pay274_lane, Cert.Proof.KI.k5_pay275_lane, Cert.Proof.KI.k5_pay276_lane, Cert.Proof.KI.k5_pay277_lane, Cert.Proof.KI.k5_pay278_lane, Cert.Proof.KI.k5_pay279_lane, Cert.Proof.KI.k5_pay280_lane, Cert.Proof.KI.k5_pay281_lane, Cert.Proof.KI.k5_pay282_lane, Cert.Proof.KI.k5_pay283_lane, Cert.Proof.KI.k5_pay284_lane, Cert.Proof.KI.k5_pay285_lane, Cert.Proof.KI.k5_pay286_lane, Cert.Proof.KI.k5_pay287_lane, Cert.Proof.KI.k5_pay288_lane, Cert.Proof.KI.k5_pay289_lane, Cert.Proof.KI.k5_pay290_lane, Cert.Proof.KI.k5_pay291_lane, Cert.Proof.KI.k5_pay292_lane, Cert.Proof.KI.k5_pay293_lane, Cert.Proof.KI.k5_pay294_lane, Cert.Proof.KI.k5_pay295_lane, Cert.Proof.KI.k5_pay296_lane, Cert.Proof.KI.k5_pay297_lane, Cert.Proof.KI.k5_pay298_lane, Cert.Proof.KI.k5_pay299_lane, Cert.Proof.KI.k5_pay300_lane, Cert.Proof.KI.k5_pay301_lane, Cert.Proof.KI.k5_pay302_lane, Cert.Proof.KI.k5_pay303_lane, Cert.Proof.KI.k5_pay304_lane, Cert.Proof.KI.k5_pay305_lane, Cert.Proof.KI.k5_pay306_lane, Cert.Proof.KI.k5_pay307_lane, Cert.Proof.KI.k5_pay308_lane, Cert.Proof.KI.k5_pay309_lane, Cert.Proof.KI.k5_pay310_lane, Cert.Proof.KI.k5_pay311_lane, Cert.Proof.KI.k5_pay312_lane, Cert.Proof.KI.k5_pay313_lane, Cert.Proof.KI.k5_pay314_lane, Cert.Proof.KI.k5_pay315_lane, Cert.Proof.KI.k5_pay316_lane, Cert.Proof.KI.k5_pay317_lane, Cert.Proof.KI.k5_pay318_lane, Cert.Proof.KI.k5_pay319_lane, Cert.Proof.KI.k5_pay320_lane, Cert.Proof.KI.k5_pay321_lane, Cert.Proof.KI.k5_pay322_lane, Cert.Proof.KI.k5_pay323_lane, Cert.Proof.KI.k5_pay324_lane, Cert.Proof.KI.k5_pay325_lane, Cert.Proof.KI.k5_pay326_lane, Cert.Proof.KI.k5_pay327_lane, Cert.Proof.KI.k5_pay328_lane, Cert.Proof.KI.k5_pay329_lane, Cert.Proof.KI.k5_pay330_lane, Cert.Proof.KI.k5_pay331_lane, Cert.Proof.KI.k5_pay332_lane, Cert.Proof.KI.k5_pay333_lane, Cert.Proof.KI.k5_pay334_lane, Cert.Proof.KI.k5_pay335_lane, Cert.Proof.KI.k5_pay336_lane, Cert.Proof.KI.k5_pay337_lane, Cert.Proof.KI.k5_pay338_lane, Cert.Proof.KI.k5_pay339_lane, Cert.Proof.KI.k5_pay340_lane, Cert.Proof.KI.k5_pay341_lane, Cert.Proof.KI.k5_pay342_lane, Cert.Proof.KI.k5_pay343_lane, Cert.Proof.KI.k5_pay344_lane, Cert.Proof.KI.k5_pay345_lane, Cert.Proof.KI.k5_pay346_lane, Cert.Proof.KI.k5_pay347_lane, Cert.Proof.KI.k5_pay348_lane, Cert.Proof.KI.k5_pay349_lane, Cert.Proof.KI.k5_pay350_lane, Cert.Proof.KI.k5_pay351_lane, Cert.Proof.KI.k5_pay352_lane, Cert.Proof.KI.k5_pay353_lane, Cert.Proof.KI.k5_pay354_lane, Cert.Proof.KI.k5_pay355_lane, Cert.Proof.KI.k5_pay356_lane, Cert.Proof.KI.k5_pay357_lane, Cert.Proof.KI.k5_pay358_lane, Cert.Proof.KI.k5_pay359_lane, Cert.Proof.KI.k5_pay360_lane, Cert.Proof.KI.k5_pay361_lane, Cert.Proof.KI.k5_pay362_lane, Cert.Proof.KI.k5_pay363_lane, Cert.Proof.KI.k5_pay364_lane, Cert.Proof.KI.k5_pay365_lane, Cert.Proof.KI.k5_pay366_lane, Cert.Proof.KI.k5_pay367_lane, Cert.Proof.KI.k5_pay368_lane, Cert.Proof.KI.k5_pay369_lane, Cert.Proof.KI.k5_pay370_lane, Cert.Proof.KI.k5_pay371_lane, Cert.Proof.KI.k5_pay372_lane, Cert.Proof.KI.k5_pay373_lane, Cert.Proof.KI.k5_pay374_lane, Cert.Proof.KI.k5_pay375_lane, Cert.Proof.KI.k5_pay376_lane, Cert.Proof.KI.k5_pay377_lane, Cert.Proof.KI.k5_pay378_lane, Cert.Proof.KI.k5_pay379_lane, Cert.Proof.KI.k5_pay380_lane, Cert.Proof.KI.k5_pay381_lane, Cert.Proof.KI.k5_pay382_lane, Cert.Proof.KI.k5_pay383_lane, Cert.Proof.KI.k5_pay384_lane, Cert.Proof.KI.k5_pay385_lane, Cert.Proof.KI.k5_pay386_lane, Cert.Proof.KI.k5_pay387_lane, Cert.Proof.KI.k5_pay388_lane, Cert.Proof.KI.k5_pay389_lane, Cert.Proof.KI.k5_pay390_lane, Cert.Proof.KI.k5_pay391_lane, Cert.Proof.KI.k5_pay392_lane, Cert.Proof.KI.k5_pay393_lane, Cert.Proof.KI.k5_pay394_lane, Cert.Proof.KI.k5_pay395_lane, Cert.Proof.KI.k5_pay396_lane, Cert.Proof.KI.k5_pay397_lane, Cert.Proof.KI.k5_pay398_lane, Cert.Proof.KI.k5_pay399_lane, Cert.Proof.KI.k5_pay400_lane, Cert.Proof.KI.k5_pay401_lane, Cert.Proof.KI.k5_pay402_lane, Cert.Proof.KI.k5_pay403_lane, Cert.Proof.KI.k5_pay404_lane, Cert.Proof.KI.k5_pay405_lane, Cert.Proof.KI.k5_pay406_lane, Cert.Proof.KI.k5_pay407_lane, Cert.Proof.KI.k5_pay408_lane, Cert.Proof.KI.k5_pay409_lane, Cert.Proof.KI.k5_pay410_lane, Cert.Proof.KI.k5_pay411_lane, Cert.Proof.KI.k5_pay412_lane, Cert.Proof.KI.k5_pay413_lane, Cert.Proof.KI.k5_pay414_lane, Cert.Proof.KI.k5_pay415_lane, Cert.Proof.KI.k5_pay416_lane, Cert.Proof.KI.k5_pay417_lane, Cert.Proof.KI.k5_pay418_lane, Cert.Proof.KI.k5_pay419_lane, Cert.Proof.KI.k5_pay420_lane, Cert.Proof.KI.k5_pay421_lane, Cert.Proof.KI.k5_pay422_lane, Cert.Proof.KI.k5_pay423_lane, Cert.Proof.KI.k5_pay424_lane, Cert.Proof.KI.k5_pay425_lane, Cert.Proof.KI.k5_pay426_lane, Cert.Proof.KI.k5_pay427_lane, Cert.Proof.KI.k5_pay428_lane, Cert.Proof.KI.k5_pay429_lane, Cert.Proof.KI.k5_pay430_lane, Cert.Proof.KI.k5_pay431_lane, Cert.Proof.KI.k5_pay432_lane, Cert.Proof.KI.k5_pay433_lane, Cert.Proof.KI.k5_pay434_lane, Cert.Proof.KI.k5_pay435_lane, Cert.Proof.KI.k5_pay436_lane, Cert.Proof.KI.k5_pay437_lane, Cert.Proof.KI.k5_pay438_lane, Cert.Proof.KI.k5_pay439_lane, Cert.Proof.KI.k5_pay440_lane, Cert.Proof.KI.k5_pay441_lane, Cert.Proof.KI.k5_pay442_lane, Cert.Proof.KI.k5_pay443_lane, Cert.Proof.KI.k5_pay444_lane, Cert.Proof.KI.k5_pay445_lane, Cert.Proof.KI.k5_pay446_lane, Cert.Proof.KI.k5_pay447_lane, Cert.Proof.KI.k5_pay448_lane, Cert.Proof.KI.k5_pay449_lane, Cert.Proof.KI.k5_pay450_lane, Cert.Proof.KI.k5_pay451_lane, Cert.Proof.KI.k5_pay452_lane, Cert.Proof.KI.k5_pay453_lane, Cert.Proof.KI.k5_pay454_lane, Cert.Proof.KI.k5_pay455_lane, Cert.Proof.KI.k5_pay456_lane, Cert.Proof.KI.k5_pay457_lane, Cert.Proof.KI.k5_pay458_lane, Cert.Proof.KI.k5_pay459_lane, Cert.Proof.KI.k5_pay460_lane, Cert.Proof.KI.k5_pay461_lane, Cert.Proof.KI.k5_pay462_lane, Cert.Proof.KI.k5_pay463_lane, Cert.Proof.KI.k5_pay464_lane, Cert.Proof.KI.k5_pay465_lane, Cert.Proof.KI.k5_pay466_lane, Cert.Proof.KI.k5_pay467_lane, Cert.Proof.KI.k5_pay468_lane, Cert.Proof.KI.k5_pay469_lane, Cert.Proof.KI.k5_pay470_lane, Cert.Proof.KI.k5_pay471_lane, Cert.Proof.KI.k5_pay472_lane, Cert.Proof.KI.k5_pay473_lane, Cert.Proof.KI.k5_pay474_lane, Cert.Proof.KI.k5_pay475_lane, Cert.Proof.KI.k5_pay476_lane, Cert.Proof.KI.k5_pay477_lane, Cert.Proof.KI.k5_pay478_lane, Cert.Proof.KI.k5_pay479_lane, Cert.Proof.KI.k5_pay480_lane, Cert.Proof.KI.k5_pay481_lane, Cert.Proof.KI.k5_pay482_lane, Cert.Proof.KI.k5_pay483_lane, Cert.Proof.KI.k5_pay484_lane, Cert.Proof.KI.k5_pay485_lane, Cert.Proof.KI.k5_pay486_lane, Cert.Proof.KI.k5_pay487_lane, Cert.Proof.KI.k5_pay488_lane, Cert.Proof.KI.k5_pay489_lane, Cert.Proof.KI.k5_pay490_lane, Cert.Proof.KI.k5_pay491_lane, Cert.Proof.KI.k5_pay492_lane, Cert.Proof.KI.k5_pay493_lane, Cert.Proof.KI.k5_pay494_lane, Cert.Proof.KI.k5_pay495_lane, Cert.Proof.KI.k5_pay496_lane, Cert.Proof.KI.k5_pay497_lane, Cert.Proof.KI.k5_pay498_lane, Cert.Proof.KI.k5_pay499_lane, Cert.Proof.KI.k5_pay500_lane, Cert.Proof.KI.k5_pay501_lane, Cert.Proof.KI.k5_pay502_lane, Cert.Proof.KI.k5_pay503_lane, Cert.Proof.KI.k5_pay504_lane, Cert.Proof.KI.k5_pay505_lane, Cert.Proof.KI.k5_pay506_lane, Cert.Proof.KI.k5_pay507_lane, Cert.Proof.KI.k5_pay508_lane, Cert.Proof.KI.k5_pay509_lane, Cert.Proof.KI.k5_pay510_lane, Cert.Proof.KI.k5_pay511_lane, Cert.Proof.KI.k5_pay512_lane, Cert.Proof.KI.k5_pay513_lane, Cert.Proof.KI.k5_pay514_lane, Cert.Proof.KI.k5_pay515_lane, Cert.Proof.KI.k5_pay516_lane, Cert.Proof.KI.k5_pay517_lane, Cert.Proof.KI.k5_pay518_lane, Cert.Proof.KI.k5_pay519_lane, Cert.Proof.KI.k5_pay520_lane, Cert.Proof.KI.k5_pay521_lane, Cert.Proof.KI.k5_pay522_lane, Cert.Proof.KI.k5_pay523_lane, Cert.Proof.KI.k5_pay524_lane, Cert.Proof.KI.k5_pay525_lane, Cert.Proof.KI.k5_pay526_lane, Cert.Proof.KI.k5_pay527_lane, Cert.Proof.KI.k5_pay528_lane, Cert.Proof.KI.k5_pay529_lane, Cert.Proof.KI.k5_pay530_lane, Cert.Proof.KI.k5_pay531_lane, Cert.Proof.KI.k5_pay532_lane, Cert.Proof.KI.k5_pay533_lane, Cert.Proof.KI.k5_pay534_lane, Cert.Proof.KI.k5_pay535_lane, Cert.Proof.KI.k5_pay536_lane, Cert.Proof.KI.k5_pay537_lane, Cert.Proof.KI.k5_pay538_lane, Cert.Proof.KI.k5_pay539_lane, Cert.Proof.KI.k5_pay540_lane, Cert.Proof.KI.k5_pay541_lane, Cert.Proof.KI.k5_pay542_lane, Cert.Proof.KI.k5_pay543_lane, Cert.Proof.KI.k5_pay544_lane, Cert.Proof.KI.k5_pay545_lane, Cert.Proof.KI.k5_pay546_lane, Cert.Proof.KI.k5_pay547_lane, Cert.Proof.KI.k5_pay548_lane, Cert.Proof.KI.k5_pay549_lane, Cert.Proof.KI.k5_pay550_lane, Cert.Proof.KI.k5_pay551_lane, Cert.Proof.KI.k5_pay552_lane, Cert.Proof.KI.k5_pay553_lane, Cert.Proof.KI.k5_pay554_lane, Cert.Proof.KI.k5_pay555_lane, Cert.Proof.KI.k5_pay556_lane, Cert.Proof.KI.k5_pay557_lane, Cert.Proof.KI.k5_pay558_lane, Cert.Proof.KI.k5_pay559_lane, Cert.Proof.KI.k5_pay560_lane, Cert.Proof.KI.k5_pay561_lane, Cert.Proof.KI.k5_pay562_lane, Cert.Proof.KI.k5_pay563_lane, Cert.Proof.KI.k5_pay564_lane, Cert.Proof.KI.k5_pay565_lane, Cert.Proof.KI.k5_pay566_lane, Cert.Proof.KI.k5_pay567_lane, Cert.Proof.KI.k5_pay568_lane, Cert.Proof.KI.k5_pay569_lane, Cert.Proof.KI.k5_pay570_lane, Cert.Proof.KI.cast_16]
        refine Eq.trans (b := tree32 fun k : Fin 32 => View.readAt (Elt F) (Memref.whole cc5_scratch1).view
          (Rect.unit (s := S2x128x128) (k5_off23 kk (BitVec.ofNat 32 k.val)) S1x1x16.size (k5_off23_inb kk k)).toLoadRect fr (ix3 (0 : Fin 1) (0 : Fin 1) l')) rfl ?_
        refine (congrArg tree32 (funext fun k => ld_lane d L _ (1 : Fin 2) (32 * kk.val + k.val) 0 (by have := k3_lt kk; omega) (by omega) (k5_off23_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 0 + l'.val = k5_off24 kk 2 + 1 * l'.val
        rw [k5_off24_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (1 : Fin 2) (⟨kk.val, k3_lt kk⟩ : Fin 4) (⟨16 * 0 + l.val, by omega⟩ : Fin 128)) ∈ (Rect.unit (s := S2x4x128) (k5_off24 kk) S1x1x16.size (k5_off24_inb kk)).set
        rw [Rect.mem_set_unit, k5_off24_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (1 : Fin 2) (⟨kk.val, k3_lt kk⟩ : Fin 4) (⟨16 * 1 + l.val, by omega⟩ : Fin 128)) ∈ (Rect.unit (s := S2x4x128) (k5_off26 kk) S1x1x16.size (k5_off26_inb kk)).set
        rw [Rect.mem_set_unit, k5_off26_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (1 : Fin 2) (⟨kk.val, k3_lt kk⟩ : Fin 4) (⟨16 * 2 + l.val, by omega⟩ : Fin 128)) ∈ (Rect.unit (s := S2x4x128) (k5_off28 kk) S1x1x16.size (k5_off28_inb kk)).set
        rw [Rect.mem_set_unit, k5_off28_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (1 : Fin 2) (⟨kk.val, k3_lt kk⟩ : Fin 4) (⟨16 * 3 + l.val, by omega⟩ : Fin 128)) ∈ (Rect.unit (s := S2x4x128) (k5_off30 kk) S1x1x16.size (k5_off30_inb kk)).set
        rw [Rect.mem_set_unit, k5_off30_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (1 : Fin 2) (⟨kk.val, k3_lt kk⟩ : Fin 4) (⟨16 * 4 + l.val, by omega⟩ : Fin 128)) ∈ (Rect.unit (s := S2x4x128) (k5_off32 kk) S1x1x16.size (k5_off32_inb kk)).set
        rw [Rect.mem_set_unit, k5_off32_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (1 : Fin 2) (⟨kk.val, k3_lt kk⟩ : Fin 4) (⟨16 * 5 + l.val, by omega⟩ : Fin 128)) ∈ (Rect.unit (s := S2x4x128) (k5_off34 kk) S1x1x16.size (k5_off34_inb kk)).set
        rw [Rect.mem_set_unit, k5_off34_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (1 : Fin 2) (⟨kk.val, k3_lt kk⟩ : Fin 4) (⟨16 * 6 + l.val, by omega⟩ : Fin 128)) ∈ (Rect.unit (s := S2x4x128) (k5_off36 kk) S1x1x16.size (k5_off36_inb kk)).set
        rw [Rect.mem_set_unit, k5_off36_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (1 : Fin 2) (⟨kk.val, k3_lt kk⟩ : Fin 4) (⟨16 * 7 + l.val, by omega⟩ : Fin 128)) ∈ (Rect.unit (s := S2x4x128) (k5_off38 kk) S1x1x16.size (k5_off38_inb kk)).set
        rw [Rect.mem_set_unit, k5_off38_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc5_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k5_off38 kk) S1x1x16.size (k5_off38_inb kk)).set := hm
      rw [Rect.mem_set_unit, k5_off38_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 6
      intro hm
      have hm' : y ∈ (Rect.unit (s := S2x4x128) (k5_off36 kk) S1x1x16.size (k5_off36_inb kk)).set := hm
      rw [Rect.mem_set_unit, k5_off36_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 5
      intro hm
      have hm' : y ∈ (Rect.unit (s := S2x4x128) (k5_off34 kk) S1x1x16.size (k5_off34_inb kk)).set := hm
      rw [Rect.mem_set_unit, k5_off34_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 4
      intro hm
      have hm' : y ∈ (Rect.unit (s := S2x4x128) (k5_off32 kk) S1x1x16.size (k5_off32_inb kk)).set := hm
      rw [Rect.mem_set_unit, k5_off32_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 3
      intro hm
      have hm' : y ∈ (Rect.unit (s := S2x4x128) (k5_off30 kk) S1x1x16.size (k5_off30_inb kk)).set := hm
      rw [Rect.mem_set_unit, k5_off30_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 2
      intro hm
      have hm' : y ∈ (Rect.unit (s := S2x4x128) (k5_off28 kk) S1x1x16.size (k5_off28_inb kk)).set := hm
      rw [Rect.mem_set_unit, k5_off28_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 1
      intro hm
      have hm' : y ∈ (Rect.unit (s := S2x4x128) (k5_off26 kk) S1x1x16.size (k5_off26_inb kk)).set := hm
      rw [Rect.mem_set_unit, k5_off26_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 0
      intro hm
      have hm' : y ∈ (Rect.unit (s := S2x4x128) (k5_off24 kk) S1x1x16.size (k5_off24_inb kk)).set := hm
      rw [Rect.mem_set_unit, k5_off24_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩

end Inner

end Cert.Proof.Tile2

end
-- ==== Proof.BodyInnerVC2.lean ====
import proofs.«205366_g3083786518796_cont_9to1_852_38_alg».proof.Proof.BodyInnerC2
import proofs.«205366_g3083786518796_cont_9to1_852_38_alg».proof.Proof.BodyInvVC2
import Idealize.ShloMosaic.Lib.Writes
import Idealize.ShloMosaic.Lib.ValueIdx

noncomputable section

/-!
# The inner loops' trips against the invariant with the contents named

While a slot of the row scratch holds the 128 table rows its index chunk names, one trip of that slot's inner loop
adds one row to "the rows of the slot of the output scratch already summed hold the tree sums of their 32 table rows".
-/

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KI (tree32)

variable {F : FTy → Type}

variable [FloatOps F]
variable {U : Type} [URA U] [CountersIn U]

local notation "𝕄" => MT nD τ sig (HIx 3) (Elt F) ℕ U ℕ
local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

section Inner
variable (d : Dev nD) (L : grid5.Coords)
variable (Tx : S10000x128.Idx → Elt F .f32) (Ix : S32x10496.Idx → Elt F .i32)

/-- One trip of slot 0's inner loop against the invariant "the rows already summed hold their sums": the trip's row gets
    the tree of its 32 rows of the row scratch, which under `RowsOK` are the table rows the index chunk names. -/
theorem inner_region0 (n : ℕ) (h : Buf (Elt F) ((V d (cV L) (jV L)).loc cc5_scratch1)) (hr : RowsOK L Tx Ix (0 : Fin 2) n h)
    (k : Fin k5_t1_loop.trips) (v2 : BitVec 32) (kk : Fin k5_t2_loop.trips) (x : PUnit) :
    innerInv0 d L Tx Ix (Finset.univ \ (obK1).view.set) n h kk.val x
      ⊢ (wp frame (wpE (defs₀ (F := F)) 𝒱₀ (V d (cV L) (jV L)) none) Set.univ
          (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k kk x)
          (fun y => innerInv0 d L Tx Ix (Finset.univ \ (obK1).view.set) n h (kk.val + 1) y) : sProp 𝕄) := by
  cases x
  unfold innerInv0
  iintro ⟨%fob', %hs, Hrw, Hob⟩
  iapply (wp_wand_r frame _ Set.univ)
  isplitl [Hrw Hob]
  · iapply (inner_trip0 d L k kk h fob' v2)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k2_lt kk⟩ : Fin 4) := Fin.ext hrk
        subst er
        refine (p1 g l).trans ?_
        unfold scrSum rowSum
        refine congrArg Cert.Proof.KI.tree32 (funext fun q => ?_)
        show h (ix3 (0 : Fin 2) (⟨32 * kk.val + q.val, by have := k2_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k2_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

/-- One trip of slot 0's inner loop against the invariant "the rows already summed hold their sums": the trip's row gets
    the tree of its 32 rows of the row scratch, which under `RowsOK` are the table rows the index chunk names. -/
theorem inner_region0_first (n : ℕ) (h : Buf (Elt F) ((V d (cV L) (jV L)).loc cc5_scratch1)) (hr : RowsOK L Tx Ix (0 : Fin 2) n h)
    (k : Fin k5_t1_loop.trips) (v2 : BitVec 32) (kk : Fin k5_t2_loop.trips) (x : PUnit) :
    innerInv0 d L Tx Ix (Finset.univ) n h kk.val x
      ⊢ (wp frame (wpE (defs₀ (F := F)) 𝒱₀ (V d (cV L) (jV L)) none) Set.univ
          (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k kk x)
          (fun y => innerInv0 d L Tx Ix (Finset.univ) n h (kk.val + 1) y) : sProp 𝕄) := by
  cases x
  unfold innerInv0
  iintro ⟨%fob', %hs, Hrw, Hob⟩
  iapply (wp_wand_r frame _ Set.univ)
  isplitl [Hrw Hob]
  · iapply (inner_trip0_first d L k kk h fob' v2)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k2_lt kk⟩ : Fin 4) := Fin.ext hrk
        subst er
        refine (p1 g l).trans ?_
        unfold scrSum rowSum
        refine congrArg Cert.Proof.KI.tree32 (funext fun q => ?_)
        show h (ix3 (0 : Fin 2) (⟨32 * kk.val + q.val, by have := k2_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k2_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

/-- One trip of slot 1's inner loop against the invariant "the rows already summed hold their sums": the trip's row gets
    the tree of its 32 rows of the row scratch, which under `RowsOK` are the table rows the index chunk names. -/
theorem inner_region1 (n : ℕ) (h : Buf (Elt F) ((V d (cV L) (jV L)).loc cc5_scratch1)) (hr : RowsOK L Tx Ix (1 : Fin 2) n h)
    (k : Fin k5_t1_loop.trips) (v2 : BitVec 32) (arg11 : BitVec 32) (kk : Fin k5_t3_loop.trips) (x : PUnit) :
    innerInv1 d L Tx Ix n h kk.val x
      ⊢ (wp frame (wpE (defs₀ (F := F)) 𝒱₀ (V d (cV L) (jV L)) none) Set.univ
          (k5_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k arg11 kk x)
          (fun y => innerInv1 d L Tx Ix n h (kk.val + 1) y) : sProp 𝕄) := by
  cases x
  unfold innerInv1
  iintro ⟨%fob', %hs, Hrw, Hob⟩
  iapply (wp_wand_r frame _ Set.univ)
  isplitl [Hrw Hob]
  · iapply (inner_trip1 d L k kk h fob' v2 arg11)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k3_lt kk⟩ : Fin 4) := Fin.ext hrk
        subst er
        refine (p1 g l).trans ?_
        unfold scrSum rowSum
        refine congrArg Cert.Proof.KI.tree32 (funext fun q => ?_)
        show h (ix3 (1 : Fin 2) (⟨32 * kk.val + q.val, by have := k3_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k3_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

end Inner

end Cert.Proof.Tile2

end
-- ==== Proof.GatherReadC2.lean ====
/-
  What an indirect gather of 128 rows of the table leaves in its destination, read at an index.

  The gather's destination is a [128,128] slot; entry p of the 128-entry offset list names a row of the [10000,128]
  table; after the gather, row p of the destination is that row of the table: the element at (p, j) is the table's
  element at (offs[p], j).
-/
import proofs.«205366_g3083786518796_cont_9to1_852_38_alg».proof.Proof.Gen.KernelIdeal
import Idealize.ShloMosaic.Lib.SparseCore.Stream
import Idealize.ShloMosaic.Lib.ValueIdx
import proofs.«205366_g3083786518796_cont_9to1_852_38_alg».proof.Proof.ScTileParts2

noncomputable section

namespace Cert.Proof.GatherRead2

open Cert.KernelIdeal Cert.KernelIdeal.Gen
open Idealize.ShloMosaic Idealize.ShloMosaic.ValueIdx

variable {F : FTy → Type}

/-- The row the offset list names for destination row `p`: entry `p` of the list (a rank-one list's `p`-th word in
    row-major order is its `p`-th word). -/
theorem rows_apply (offs : S128.Idx → Elt F .i32) (hn : S128.numel = S128x128.size (gathers_S10000x128_S128x128).axis')
    (hin : ∀ x, (offs x).toNat < S10000x128.size (gathers_S10000x128_S128x128).axis) (p : Fin 128) :
    (SparseCore.rows (F := F) offs hn hin p).val = (offs (ix1 p)).toNat := by
  unfold SparseCore.rows
  show (offs (S128.rowMajor.symm (Fin.cast hn.symm p))).toNat = _
  congr 2
  apply S128.rowMajor.injective
  rw [Equiv.apply_symm_apply]
  apply Fin.ext
  rw [Shape.rowMajor_val_one]
  rfl

/-- THE GATHER'S PAYLOAD AT AN INDEX: element (p, j) of the destination is the table's element at (offs[p], j). -/
theorem gatherPayload_apply (Tx : S10000x128.Idx → Elt F .f32) (offs : S128.Idx → Elt F .i32)
    (hn : S128.numel = S128x128.size (gathers_S10000x128_S128x128).axis')
    (hin : ∀ x, (offs x).toNat < S10000x128.size (gathers_S10000x128_S128x128).axis) (p j : Fin 128) :
    SparseCore.gatherPayload (F := F) gathers_S10000x128_S128x128 Tx (SparseCore.rows (F := F) offs hn hin) (ix2 p j)
      = Tx (ix2 (⟨(offs (ix1 p)).toNat, hin _⟩ : Fin 10000) j) := by
  unfold SparseCore.gatherPayload
  congr 1
  funext b
  refine Fin.ext ?_
  match b with
  | ⟨0, _⟩ =>
    show ((gathers_S10000x128_S128x128).idx (SparseCore.rows (F := F) offs hn hin) (ix2 p j) (gathers_S10000x128_S128x128).axis).val = _
    rw [Shape.Gathers.idx_axis]
    exact rows_apply offs hn hin p
  | ⟨1, _⟩ =>
    exact Shape.Gathers.idx_of_ne gathers_S10000x128_S128x128 _ (ix2 p j) (⟨1, by decide⟩ : Fin S10000x128.rank) (by decide)

/-! ## The offsets the kernel gathers by: a window of the index scratch, which holds the worker's row of the index table -/

/-- The `n`-th window of 128 entries of the index scratch, read at entry `p`: entry `128·n + p` of the scratch. -/
theorem ixWin_read (n : ℕ) (h : ∀ a, (![128 * n] : Fin 1 → ℕ) a + S128.size a ≤ S10496.size a) (g : S10496.Idx → Elt F .i32)
    (p : Fin 128) (hp : 128 * n + p.val < 10496) :
    (Cert.Proof.Tile2.ixWinK n h).view.read (Elt F) g (ix1 p) = g (ix1 (⟨128 * n + p.val, hp⟩ : Fin 10496)) := by
  rw [View.read_apply]
  show g ((Rect.unit (s := S10496) ![128 * n] S128.size h).emb (ix1 p)) = _
  congr 1
  funext a
  refine Fin.ext ?_
  match a with
  | ⟨0, _⟩ =>
    rw [Rect.emb_apply]
    show 128 * n + 1 * p.val = 128 * n + p.val
    omega

/-- THE GATHER OF A WINDOW, AT AN INDEX: with the index scratch holding the worker's row of the index table `Ix` and
    the offsets its `n`-th window, element (p, j) of the destination is the table's element at the row that entry
    `128·n + p` of the worker's row names, lane j. -/
theorem gather_window_apply (L : grid5.Coords) (Tx : S10000x128.Idx → Elt F .f32) (Ix : S32x10496.Idx → BitVec 32)
    (n : ℕ) (h : ∀ a, (![128 * n] : Fin 1 → ℕ) a + S128.size a ≤ S10496.size a)
    (hn : S128.numel = S128x128.size (gathers_S10000x128_S128x128).axis')
    (hin : ∀ x, ((Cert.Proof.Tile2.ixWinK n h).view.read (Elt F) ((Cert.Proof.Tile2.iRowK L).view.read (Elt F) Ix) x).toNat
      < S10000x128.size (gathers_S10000x128_S128x128).axis)
    (p j : Fin 128) (hp : 128 * n + p.val < 10496) (hr : (Ix (ix2 (Cert.Proof.KI.wid (Cert.Proof.KI.cL2 L) (Cert.Proof.KI.jL2 L)) (⟨128 * n + p.val, hp⟩ : Fin 10496))).toNat < 10000) :
    SparseCore.gatherPayload (F := F) gathers_S10000x128_S128x128 Tx
        (SparseCore.rows (F := F) ((Cert.Proof.Tile2.ixWinK n h).view.read (Elt F) ((Cert.Proof.Tile2.iRowK L).view.read (Elt F) Ix)) hn hin) (ix2 p j)
      = Tx (ix2 (⟨(Ix (ix2 (Cert.Proof.KI.wid (Cert.Proof.KI.cL2 L) (Cert.Proof.KI.jL2 L)) (⟨128 * n + p.val, hp⟩ : Fin 10496))).toNat, hr⟩ : Fin 10000) j) := by
  rw [gatherPayload_apply]
  congr 2
  refine Fin.ext ?_
  show ((Cert.Proof.Tile2.ixWinK n h).view.read (Elt F) ((Cert.Proof.Tile2.iRowK L).view.read (Elt F) Ix) (ix1 p)).toNat = _
  rw [ixWin_read n h _ p hp, View.read_apply, Cert.Proof.KI.iRow_emb2 L _ hp]
  rfl

end Cert.Proof.GatherRead2

end
-- ==== Proof.GSumWindowC2.lean ====
/-
  The link between one gathered window and the neighbour sums.

  Worker w's output row 320·w + 4·n + r' (n < 80 the window's number, r' < 4) sums, over k < 32, the table rows named
  by entries 32·(4·n + r') + k = 128·n + (32·r' + k) of the worker's index row: entries 32·r' + k of the n-th window
  of 128.  So when a slot holds the n-th window's gather — its row p the table row that entry 128·n + p names — the
  output row is the tree sum of the slot's rows 32·r' … 32·r' + 31, lane by lane.
-/
import proofs.«205366_g3083786518796_cont_9to1_852_38_alg».proof.Proof.GSum
import proofs.«205366_g3083786518796_cont_9to1_852_38_alg».proof.Proof.GatherReadC2

noncomputable section

namespace Cert.Proof.KI

open Cert.KernelIdeal
open Idealize.ShloMosaic Idealize.ShloMosaic.ValueIdx

variable {F : FTy → Type} [FloatOps F]

/-- THE WINDOW'S SUMS: a slot holding the `n`-th window's gather gives rows 4·n … 4·n + 3 of the worker's neighbour sums
    as the tree sums of its four groups of 32 rows. -/
theorem gsumF_window2 (Tx : S10000x128.Idx → F .f32) (Ix : S32x10496.Idx → BitVec 32) (w : Fin 32) (n : ℕ) (hn : n < 80)
    (slot : S128x128.Idx → F .f32) (hin : ∀ k : Fin 10496, (Ix (ix2 w k)).toNat < 10000)
    (hslot : ∀ (p j : Fin 128), slot (ix2 p j)
      = Tx (ix2 (⟨(Ix (ix2 w (⟨128 * n + p.val, by omega⟩ : Fin 10496))).toNat, hin _⟩ : Fin 10000) j))
    (r' : Fin 4) (j : Fin 128) :
    gsumF Tx Ix (ix2 (⟨320 * w.val + 4 * n + r'.val, by omega⟩ : Fin 10240) j)
      = tree32 fun k : Fin 32 => slot (ix2 (⟨32 * r'.val + k.val, by omega⟩ : Fin 128) j) := by
  have e1 : (320 * w.val + 4 * n + r'.val) / 320 = w.val := by omega
  have e2 : (320 * w.val + 4 * n + r'.val) % 320 = 4 * n + r'.val := by omega
  show (tree32 fun k : Fin 32 =>
    Tx (ix2
      ⟨(Ix (ix2 ⟨(320 * w.val + 4 * n + r'.val) / 320, by omega⟩
          ⟨32 * ((320 * w.val + 4 * n + r'.val) % 320) + k.val, by omega⟩)).toNat % 10000, Nat.mod_lt _ (by decide)⟩ j)) = _
  congr 1
  funext k
  rw [hslot]
  have hI : Ix (ix2 (⟨(320 * w.val + 4 * n + r'.val) / 320, by omega⟩ : Fin 32)
        (⟨32 * ((320 * w.val + 4 * n + r'.val) % 320) + k.val, by omega⟩ : Fin 10496))
      = Ix (ix2 w (⟨128 * n + (32 * r'.val + k.val), by omega⟩ : Fin 10496)) := by
    congr 1
    have ha : (⟨(320 * w.val + 4 * n + r'.val) / 320, by omega⟩ : Fin 32) = w := Fin.ext e1
    have hb : (⟨32 * ((320 * w.val + 4 * n + r'.val) % 320) + k.val, by omega⟩ : Fin 10496) = ⟨128 * n + (32 * r'.val + k.val), by omega⟩ :=
      Fin.ext (by show 32 * ((320 * w.val + 4 * n + r'.val) % 320) + k.val = 128 * n + (32 * r'.val + k.val); omega)
    rw [ha, hb]
  congr 2
  refine Fin.ext ?_
  show (Ix (ix2 (⟨(320 * w.val + 4 * n + r'.val) / 320, by omega⟩ : Fin 32)
        (⟨32 * ((320 * w.val + 4 * n + r'.val) % 320) + k.val, by omega⟩ : Fin 10496))).toNat % 10000 = _
  rw [hI, Nat.mod_eq_of_lt (hin _)]

/-- The same at lane `16·g + l` of the eight 16-lane groups of a row (the form the vector unit's additions have). -/
theorem gsumF_window_lanes2 (Tx : S10000x128.Idx → F .f32) (Ix : S32x10496.Idx → BitVec 32) (w : Fin 32) (n : ℕ) (hn : n < 80)
    (slot : S128x128.Idx → F .f32) (hin : ∀ k : Fin 10496, (Ix (ix2 w k)).toNat < 10000)
    (hslot : ∀ (p j : Fin 128), slot (ix2 p j)
      = Tx (ix2 (⟨(Ix (ix2 w (⟨128 * n + p.val, by omega⟩ : Fin 10496))).toNat, hin _⟩ : Fin 10000) j))
    (r' : Fin 4) (g : Fin 8) (l : Fin 16) :
    gsumF Tx Ix (ix2 (⟨320 * w.val + 4 * n + r'.val, by omega⟩ : Fin 10240) (⟨16 * g.val + l.val, by omega⟩ : Fin 128))
      = tree32 fun k : Fin 32 => slot (ix2 (⟨32 * r'.val + k.val, by omega⟩ : Fin 128) (⟨16 * g.val + l.val, by omega⟩ : Fin 128)) :=
  gsumF_window2 Tx Ix w n hn slot hin hslot r' _

/-- THE CHUNK'S VALUES: the result chunk of trip `t`, slot `b` is rows 4·n … 4·n + 3 (n = 2·t + b) of the worker's
    rows; contents that hold, at each of these four rows, the tree sums of the slot's groups of 32 rows — the slot
    holding the n-th window's gather — are the neighbour sums on the chunk. -/
theorem chunk_val2 (L : grid5.Coords) (t : Fin k5_t1_loop.trips) (b : Fin 2) (Tx : S10000x128.Idx → F .f32) (Ix : S32x10496.Idx → BitVec 32)
    (f : S10240x128.Idx → F .f32) (slot : S128x128.Idx → F .f32)
    (hin : ∀ k : Fin 10496, (Ix (ix2 (wid (cL2 L) (jL2 L)) k)).toNat < 10000)
    (hslot : ∀ (p j : Fin 128), slot (ix2 p j)
      = Tx (ix2 (⟨(Ix (ix2 (wid (cL2 L) (jL2 L)) (⟨128 * (2 * t.val + b.val) + p.val, by
          have := lt_of_lt_of_eq t.isLt Cert.Proof.Tile2.trips_eq; omega⟩ : Fin 10496))).toNat, hin _⟩ : Fin 10000) j))
    (hf : ∀ (r' : Fin 4) (j : Fin 128),
      f (ix2 (⟨320 * (wid (cL2 L) (jL2 L)).val + 4 * (2 * t.val + b.val) + r'.val, by
          have := lt_of_lt_of_eq t.isLt Cert.Proof.Tile2.trips_eq; omega⟩ : Fin 10240) j)
        = tree32 fun k : Fin 32 => slot (ix2 (⟨32 * r'.val + k.val, by omega⟩ : Fin 128) j)) :
    ∀ x ∈ Cert.Proof.Tile2.oChunkSet L t b, f x = gsumF Tx Ix x := by
  intro x hx
  have ht : t.val < 40 := lt_of_lt_of_eq t.isLt Cert.Proof.Tile2.trips_eq
  have hb := b.isLt
  rw [Cert.Proof.Tile2.mem_oChunkSet] at hx
  obtain ⟨a, j, rfl⟩ : ∃ (a : Fin 10240) (j : Fin 128), x = ix2 a j := ⟨x 0, x 1, eq_ix2 x⟩
  have hw : (wid (cL2 L) (jL2 L)).val = 2 * (L 1).val + (L 0).val := rfl
  have hx' : 640 * (L 1).val + 320 * (L 0).val + 8 * t.val + 4 * b.val ≤ a.val
      ∧ a.val < 640 * (L 1).val + 320 * (L 0).val + 8 * t.val + 4 * b.val + 4 := hx
  have hr : a.val - (320 * (wid (cL2 L) (jL2 L)).val + 4 * (2 * t.val + b.val)) < 4 := by omega
  have e : (ix2 a j : S10240x128.Idx) = ix2 (⟨320 * (wid (cL2 L) (jL2 L)).val + 4 * (2 * t.val + b.val)
      + (⟨a.val - (320 * (wid (cL2 L) (jL2 L)).val + 4 * (2 * t.val + b.val)), hr⟩ : Fin 4).val, by omega⟩ : Fin 10240) j := by
    congr 1
    exact Fin.ext (by
      show a.val = 320 * (wid (cL2 L) (jL2 L)).val + 4 * (2 * t.val + b.val) + (a.val - (320 * (wid (cL2 L) (jL2 L)).val + 4 * (2 * t.val + b.val)))
      omega)
  rw [e, hf, gsumF_window2 Tx Ix (wid (cL2 L) (jL2 L)) (2 * t.val + b.val) (by omega) slot hin hslot]

end Cert.Proof.KI

end
-- ==== Proof.BodyStepsVC2.lean ====
/-
  The value steps of the gather-sum trips, as pure facts about the contents the transfers leave: a slot of the row scratch
  after its gather holds the table rows its index window names; a result chunk after its copy-out holds its rows of the
  neighbour-sum array when the result scratch's slot held the tree sums.
-/
import proofs.«205366_g3083786518796_cont_9to1_852_38_alg».proof.Proof.BodyLemmasC2
import proofs.«205366_g3083786518796_cont_9to1_852_38_alg».proof.Proof.BodyInvVC2
import proofs.«205366_g3083786518796_cont_9to1_852_38_alg».proof.Proof.GatherReadC2
import proofs.«205366_g3083786518796_cont_9to1_852_38_alg».proof.Proof.GSumWindowC2

noncomputable section

namespace Cert.Proof.Tile2

open Cert.KernelIdeal Cert.KernelIdeal.Gen
open Idealize.ShloMosaic
open Idealize.ShloMosaic.ValueIdx (ix1 ix2 ix3)

variable {F : FTy → Type}

/-! ## The views' placements -/

/-- Slot 0 of the row scratch: its element (r, j) is the scratch's element (0, r, j). -/
theorem rwK0_emb (r j : Fin 128) : (rwK0).view.emb (ix2 r j : S128x128.Idx) = (ix3 (0 : Fin 2) r j : S2x128x128.Idx) := by
  have hk : Shape.reshapeEquiv (s := S1x128x128) (s' := S128x128) (squeezes_S1x128x128_S128x128).numel_eq (ix2 r j : S128x128.Idx)
      = (ix3 (0 : Fin 1) r j : S1x128x128.Idx) :=
    Shape.reshapeEquiv_eq_of_rowMajor _ (by
      show ((⟨3, ![1, 128, 128]⟩ : Shape).rowMajor (ix3 (0 : Fin 1) r j) : ℕ) = ((⟨2, ![128, 128]⟩ : Shape).rowMajor (ix2 r j) : ℕ)
      rw [Shape.rowMajor_val_three, Shape.rowMajor_val_two]; simp)
  show (Rect.unit (s := S2x128x128) ![0, 0, 0] S1x128x128.size inb_S2x128x128_S1x128x128_0_0_0).emb
    (Shape.reshapeEquiv (s := S1x128x128) (s' := S128x128) (squeezes_S1x128x128_S128x128).numel_eq (ix2 r j : S128x128.Idx)) = _
  rw [hk]
  funext a
  refine Fin.ext ?_
  match a with
  | ⟨0, _⟩ => show 0 + 1 * 0 = 0; rfl
  | ⟨1, _⟩ => show 0 + 1 * r.val = r.val; omega
  | ⟨2, _⟩ => show 0 + 1 * j.val = j.val; omega

/-- Slot 1 of the row scratch. -/
theorem rwK1_emb (r j : Fin 128) : (rwK1).view.emb (ix2 r j : S128x128.Idx) = (ix3 (1 : Fin 2) r j : S2x128x128.Idx) := by
  have hk : Shape.reshapeEquiv (s := S1x128x128) (s' := S128x128) (squeezes_S1x128x128_S128x128).numel_eq (ix2 r j : S128x128.Idx)
      = (ix3 (0 : Fin 1) r j : S1x128x128.Idx) :=
    Shape.reshapeEquiv_eq_of_rowMajor _ (by
      show ((⟨3, ![1, 128, 128]⟩ : Shape).rowMajor (ix3 (0 : Fin 1) r j) : ℕ) = ((⟨2, ![128, 128]⟩ : Shape).rowMajor (ix2 r j) : ℕ)
      rw [Shape.rowMajor_val_three, Shape.rowMajor_val_two]; simp)
  show (Rect.unit (s := S2x128x128) ![1, 0, 0] S1x128x128.size inb_S2x128x128_S1x128x128_1_0_0).emb
    (Shape.reshapeEquiv (s := S1x128x128) (s' := S128x128) (squeezes_S1x128x128_S128x128).numel_eq (ix2 r j : S128x128.Idx)) = _
  rw [hk]
  funext a
  refine Fin.ext ?_
  match a with
  | ⟨0, _⟩ => show 1 + 1 * 0 = 1; rfl
  | ⟨1, _⟩ => show 0 + 1 * r.val = r.val; omega
  | ⟨2, _⟩ => show 0 + 1 * j.val = j.val; omega

/-- The shared table addressed whole reads the table. -/
theorem shAll_read (Tx : S10000x128.Idx → Elt F .f32) (x : S10000x128.Idx) : (shAllK).view.read (Elt F) Tx x = Tx x := by
  rw [View.read_apply]
  show Tx ((Rect.unit (s := S10000x128) ![0, 0] S10000x128.size inb_S10000x128_S10000x128_0_0).emb x) = Tx x
  congr 1
  funext a
  refine Fin.ext ?_
  match a with
  | ⟨0, _⟩ => show 0 + 1 * (x 0).val = (x 0).val; omega
  | ⟨1, _⟩ => show 0 + 1 * (x 1).val = (x 1).val; omega

/-! ## A slot after its gather -/

section Steps

variable (L : grid5.Coords) (Tx : S10000x128.Idx → Elt F .f32) (Ix : S32x10496.Idx → Elt F .i32)

/-- Writing a whole slot of the row scratch, read back at the slot's element. -/
theorem write_rwK0 (g : S2x128x128.Idx → Elt F .f32) (P : S128x128.Idx → Elt F .f32) (r j : Fin 128) :
    View.write (Elt F) (rwK0).view g P Finset.univ (ix3 (0 : Fin 2) r j) = P (ix2 r j) := by
  rw [← rwK0_emb r j, View.write_emb, if_pos (Finset.mem_univ _)]; rfl
theorem write_rwK1 (g : S2x128x128.Idx → Elt F .f32) (P : S128x128.Idx → Elt F .f32) (r j : Fin 128) :
    View.write (Elt F) (rwK1).view g P Finset.univ (ix3 (1 : Fin 2) r j) = P (ix2 r j) := by
  rw [← rwK1_emb r j, View.write_emb, if_pos (Finset.mem_univ _)]; rfl

/-- The offsets of the `n`-th window name the rows `idxAt` names. -/
theorem window_row (n : ℕ) (hn : n ≤ 81) (inb : ∀ a, (![128 * n] : Fin 1 → ℕ) a + S128.size a ≤ S10496.size a)
    (hin' : ∀ x, (((ixWinK n inb).view.read (Elt F) ((iRowK L).view.read (Elt F) Ix)) x).toNat
      < S10000x128.size (gathers_S10000x128_S128x128).axis) (r : Fin 128) :
    (((ixWinK n inb).view.read (Elt F) ((iRowK L).view.read (Elt F) Ix)) (ix1 r)).toNat = (idxAt L Ix (128 * n + r.val)).val := by
  have hp : 128 * n + r.val < 10496 := by have := r.isLt; omega
  have h1 := hin' (ix1 r)
  rw [Cert.Proof.GatherRead2.ixWin_read n inb _ r hp] at h1 ⊢
  unfold idxAt
  show _ = ((iRowK L).view.read (Elt F) Ix (ix1 ⟨(128 * n + r.val) % 10496, Nat.mod_lt _ (by decide)⟩)).toNat % 10000
  have e : (⟨(128 * n + r.val) % 10496, Nat.mod_lt _ (by decide)⟩ : Fin 10496) = ⟨128 * n + r.val, hp⟩ := Fin.ext (Nat.mod_eq_of_lt hp)
  have h1' : ((iRowK L).view.read (Elt F) Ix (ix1 (⟨128 * n + r.val, hp⟩ : Fin 10496))).toNat < 10000 := h1
  rw [e, Nat.mod_eq_of_lt h1']

/-- SLOT 0 AFTER ITS GATHER holds the 128 table rows its index window names. -/
theorem rows_ok0 (n : ℕ) (hn : n ≤ 81) (off : Fin 1 → ℕ) (hoff : off = ![128 * n]) (inb : ∀ a, off a + S128.size a ≤ S10496.size a)
    (g : S2x128x128.Idx → Elt F .f32)
    (hnum : S128.numel = S128x128.size (gathers_S10000x128_S128x128).axis')
    (hin' : ∀ x, ((((Memref.whole cc5_scratch0 : Memref sig .scVector .vmem S10496 .i32).slice (Rect.unit (s := S10496) off S128.size inb) (fun _ => rfl)).view.read (Elt F)
        ((iRowK L).view.read (Elt F) Ix)) x).toNat < S10000x128.size (gathers_S10000x128_S128x128).axis) :
    RowsOK L Tx Ix 0 n (View.write (Elt F) (rwK0).view g
      (SparseCore.gatherPayload gathers_S10000x128_S128x128 ((shAllK).view.read (Elt F) Tx)
        (SparseCore.rows (((Memref.whole cc5_scratch0 : Memref sig .scVector .vmem S10496 .i32).slice (Rect.unit (s := S10496) off S128.size inb) (fun _ => rfl)).view.read (Elt F)
          ((iRowK L).view.read (Elt F) Ix)) hnum hin')) Finset.univ) := by
  subst hoff
  intro r j
  rw [write_rwK0, Cert.Proof.GatherRead2.gatherPayload_apply, shAll_read]
  congr 2
  exact Fin.ext (window_row L Ix n hn inb hin' r)

/-- SLOT 1 AFTER ITS GATHER. -/
theorem rows_ok1 (n : ℕ) (hn : n ≤ 81) (off : Fin 1 → ℕ) (hoff : off = ![128 * n]) (inb : ∀ a, off a + S128.size a ≤ S10496.size a)
    (g : S2x128x128.Idx → Elt F .f32)
    (hnum : S128.numel = S128x128.size (gathers_S10000x128_S128x128).axis')
    (hin' : ∀ x, ((((Memref.whole cc5_scratch0 : Memref sig .scVector .vmem S10496 .i32).slice (Rect.unit (s := S10496) off S128.size inb) (fun _ => rfl)).view.read (Elt F)
        ((iRowK L).view.read (Elt F) Ix)) x).toNat < S10000x128.size (gathers_S10000x128_S128x128).axis) :
    RowsOK L Tx Ix 1 n (View.write (Elt F) (rwK1).view g
      (SparseCore.gatherPayload gathers_S10000x128_S128x128 ((shAllK).view.read (Elt F) Tx)
        (SparseCore.rows (((Memref.whole cc5_scratch0 : Memref sig .scVector .vmem S10496 .i32).slice (Rect.unit (s := S10496) off S128.size inb) (fun _ => rfl)).view.read (Elt F)
          ((iRowK L).view.read (Elt F) Ix)) hnum hin')) Finset.univ) := by
  subst hoff
  intro r j
  rw [write_rwK1, Cert.Proof.GatherRead2.gatherPayload_apply, shAll_read]
  congr 2
  exact Fin.ext (window_row L Ix n hn inb hin' r)

end Steps

/-! ## A result chunk after its copy-out -/

/-- Slot 0 / 1 of the result scratch: element (r', j) is the scratch's element (b, r', j). -/
theorem obK0_emb (r' : Fin 4) (j : Fin 128) : (obK0).view.emb (ix2 r' j : S4x128.Idx) = (ix3 (0 : Fin 2) r' j : S2x4x128.Idx) := by
  have hk : Shape.reshapeEquiv (s := S1x4x128) (s' := S4x128) (squeezes_S1x4x128_S4x128).numel_eq (ix2 r' j : S4x128.Idx)
      = (ix3 (0 : Fin 1) r' j : S1x4x128.Idx) :=
    Shape.reshapeEquiv_eq_of_rowMajor _ (by
      show ((⟨3, ![1, 4, 128]⟩ : Shape).rowMajor (ix3 (0 : Fin 1) r' j) : ℕ) = ((⟨2, ![4, 128]⟩ : Shape).rowMajor (ix2 r' j) : ℕ)
      rw [Shape.rowMajor_val_three, Shape.rowMajor_val_two]; simp)
  show (Rect.unit (s := S2x4x128) ![0, 0, 0] S1x4x128.size inb_S2x4x128_S1x4x128_0_0_0).emb
    (Shape.reshapeEquiv (s := S1x4x128) (s' := S4x128) (squeezes_S1x4x128_S4x128).numel_eq (ix2 r' j : S4x128.Idx)) = _
  rw [hk]
  funext a
  refine Fin.ext ?_
  match a with
  | ⟨0, _⟩ => show 0 + 1 * 0 = 0; rfl
  | ⟨1, _⟩ => show 0 + 1 * r'.val = r'.val; omega
  | ⟨2, _⟩ => show 0 + 1 * j.val = j.val; omega
theorem obK1_emb (r' : Fin 4) (j : Fin 128) : (obK1).view.emb (ix2 r' j : S4x128.Idx) = (ix3 (1 : Fin 2) r' j : S2x4x128.Idx) := by
  have hk : Shape.reshapeEquiv (s := S1x4x128) (s' := S4x128) (squeezes_S1x4x128_S4x128).numel_eq (ix2 r' j : S4x128.Idx)
      = (ix3 (0 : Fin 1) r' j : S1x4x128.Idx) :=
    Shape.reshapeEquiv_eq_of_rowMajor _ (by
      show ((⟨3, ![1, 4, 128]⟩ : Shape).rowMajor (ix3 (0 : Fin 1) r' j) : ℕ) = ((⟨2, ![4, 128]⟩ : Shape).rowMajor (ix2 r' j) : ℕ)
      rw [Shape.rowMajor_val_three, Shape.rowMajor_val_two]; simp)
  show (Rect.unit (s := S2x4x128) ![1, 0, 0] S1x4x128.size inb_S2x4x128_S1x4x128_1_0_0).emb
    (Shape.reshapeEquiv (s := S1x4x128) (s' := S4x128) (squeezes_S1x4x128_S4x128).numel_eq (ix2 r' j : S4x128.Idx)) = _
  rw [hk]
  funext a
  refine Fin.ext ?_
  match a with
  | ⟨0, _⟩ => show 1 + 1 * 0 = 1; rfl
  | ⟨1, _⟩ => show 0 + 1 * r'.val = r'.val; omega
  | ⟨2, _⟩ => show 0 + 1 * j.val = j.val; omega

section Chunk

variable (L : grid5.Coords) (Tx : S10000x128.Idx → Elt F .f32) (Ix : S32x10496.Idx → Elt F .i32)

/-- The result chunk of trip `t`, slot `b`: its element (r', j) is the output's element at row 640·(L 1) + 320·(L 0) + 8·t + 4·b + r'. -/
theorem oChunk_emb (t : Fin k5_t1_loop.trips) (b : Fin 2) (r' : Fin 4) (j : Fin 128)
    (h : 640 * (L 1).val + 320 * (L 0).val + 8 * t.val + 4 * b.val + r'.val < 10240) :
    (oChunkK L t b).view.emb (ix2 r' j : S4x128.Idx)
      = (ix2 (⟨640 * (L 1).val + 320 * (L 0).val + 8 * t.val + 4 * b.val + r'.val, h⟩ : Fin 10240) j : S10240x128.Idx) := by
  show (Rect.unit (s := S10240x128) (k5_off20 L t (BitVec.ofNat 32 b.val)) S4x128.size (k5_off20_inb L t b)).emb (ix2 r' j : S4x128.Idx) = _
  have h1 := k5_off20_eq L t b
  funext a
  refine Fin.ext ?_
  rw [Rect.emb_apply]
  match a with
  | ⟨0, _⟩ =>
    show (k5_off20 L t (BitVec.ofNat 32 b.val)) 0 + 1 * r'.val = 640 * (L 1).val + 320 * (L 0).val + 8 * t.val + 4 * b.val + r'.val
    rw [h1]; simp
  | ⟨1, _⟩ =>
    show (k5_off20 L t (BitVec.ofNat 32 b.val)) 1 + 1 * j.val = j.val
    rw [h1]; simp

variable [FloatOps F]

/-- A row's sum as the kernel's invariant names it is that row of the neighbour-sum array. -/
theorem rowSum_eq (m : ℕ) (hm : m < 320) (j : Fin 128) :
    rowSum L Tx Ix m j
      = Cert.Proof.KI.gsumF (F := F) Tx Ix (ix2 (⟨320 * (2 * (L 1).val + (L 0).val) + m, by
          have h1 : (L 1).val < 16 := (L 1).isLt
          have h0 : (L 0).val < 2 := (L 0).isLt
          omega⟩ : Fin 10240) j) := by
  have h1 : (L 1).val < 16 := (L 1).isLt
  have h0 : (L 0).val < 2 := (L 0).isLt
  have e1 : (320 * (2 * (L 1).val + (L 0).val) + m) / 320 = 2 * (L 1).val + (L 0).val := by omega
  have e2 : (320 * (2 * (L 1).val + (L 0).val) + m) % 320 = m := by omega
  unfold rowSum
  show _ = (Cert.Proof.KI.tree32 fun k : Fin 32 =>
    Tx (ix2
      ⟨(Ix (ix2 ⟨(320 * (2 * (L 1).val + (L 0).val) + m) / 320, by omega⟩
          ⟨32 * ((320 * (2 * (L 1).val + (L 0).val) + m) % 320) + k.val, by omega⟩)).toNat % 10000, Nat.mod_lt _ (by decide)⟩ j))
  congr 1
  funext k
  congr 2
  refine Fin.ext ?_
  unfold idxAt
  show ((iRowK L).view.read (Elt F) Ix (ix1 ⟨(32 * m + k.val) % 10496, Nat.mod_lt _ (by decide)⟩)).toNat % 10000 = _
  have hp : 32 * m + k.val < 10496 := by have := k.isLt; omega
  have e : (⟨(32 * m + k.val) % 10496, Nat.mod_lt _ (by decide)⟩ : Fin 10496) = ⟨32 * m + k.val, hp⟩ := Fin.ext (Nat.mod_eq_of_lt hp)
  rw [e, View.read_apply, Cert.Proof.KI.iRow_emb2 L _ hp]
  show (Ix (ix2 (Cert.Proof.KI.wid (Cert.Proof.KI.cL2 L) (Cert.Proof.KI.jL2 L)) (⟨32 * m + k.val, hp⟩ : Fin 10496))).toNat % 10000 = _
  congr 3
  congr 1
  · exact Fin.ext e1.symm
  · exact Fin.ext (by show 32 * m + k.val = 32 * ((320 * (2 * (L 1).val + (L 0).val) + m) % 320) + k.val; rw [e2])

/-- THE CHUNK OF SLOT 0 AFTER ITS COPY-OUT holds its rows of the neighbour-sum array, when the slot of the result scratch held
    the four tree sums. -/
theorem chunk_ok0 (k : Fin k5_t1_loop.trips) (fc : S10240x128.Idx → Elt F .f32) (fob : S2x4x128.Idx → Elt F .f32)
    (hs : SumsOK L Tx Ix 0 (2 * k.val) 4 fob) :
    ChunkOK L Tx Ix k 0 ((oChunkK L k 0).view.writes (Elt F) fc [⟨Rect.whole S4x128, ReadAs.same.apply ((obK0).view.read (Elt F) fob)⟩]) := by
  intro x hx
  have hk : k.val < 40 := lt_of_lt_of_eq k.isLt trips_eq
  have h1 : (L 1).val < 16 := (L 1).isLt
  have h0 : (L 0).val < 2 := (L 0).isLt
  obtain ⟨y, -, rfl⟩ := Finset.mem_map.mp hx
  obtain ⟨r', j, rfl⟩ : ∃ (r' : Fin 4) (j : Fin 128), y = (ix2 r' j : S4x128.Idx) := ⟨y 0, y 1, ValueIdx.eq_ix2 y⟩
  have h := View.read_writes_cons_emb (Val := Elt F) (oChunkK L k 0).view fc (Rect.whole S4x128)
    (ReadAs.same.apply ((obK0).view.read (Elt F) fob)) [] (ix2 r' j : S4x128.Idx)
  rw [Rect.emb_whole_apply, View.read_apply, ReadAs.apply_same, View.read_apply] at h
  simp only [cast_eq] at h
  have hrow : 640 * (L 1).val + 320 * (L 0).val + 8 * k.val + 4 * (0 : Fin 2).val + r'.val < 10240 := by
    have := r'.isLt; show 640 * (L 1).val + 320 * (L 0).val + 8 * k.val + 4 * 0 + r'.val < 10240; omega
  rw [h, obK0_emb r' j, hs r' j r'.isLt, rowSum_eq L Tx Ix (4 * (2 * k.val) + r'.val) (by have := r'.isLt; omega) j,
    oChunk_emb L k 0 r' j hrow]
  congr 2
  exact Fin.ext (by
    show 320 * (2 * (L 1).val + (L 0).val) + (4 * (2 * k.val) + r'.val) = 640 * (L 1).val + 320 * (L 0).val + 8 * k.val + 4 * 0 + r'.val
    omega)

/-- THE CHUNK OF SLOT 1 AFTER ITS COPY-OUT holds its rows of the neighbour-sum array, when the slot of the result scratch held
    the four tree sums. -/
theorem chunk_ok1 (k : Fin k5_t1_loop.trips) (fc : S10240x128.Idx → Elt F .f32) (fob : S2x4x128.Idx → Elt F .f32)
    (hs : SumsOK L Tx Ix 1 (2 * k.val + 1) 4 fob) :
    ChunkOK L Tx Ix k 1 ((oChunkK L k 1).view.writes (Elt F) fc [⟨Rect.whole S4x128, ReadAs.same.apply ((obK1).view.read (Elt F) fob)⟩]) := by
  intro x hx
  have hk : k.val < 40 := lt_of_lt_of_eq k.isLt trips_eq
  have h1 : (L 1).val < 16 := (L 1).isLt
  have h0 : (L 0).val < 2 := (L 0).isLt
  obtain ⟨y, -, rfl⟩ := Finset.mem_map.mp hx
  obtain ⟨r', j, rfl⟩ : ∃ (r' : Fin 4) (j : Fin 128), y = (ix2 r' j : S4x128.Idx) := ⟨y 0, y 1, ValueIdx.eq_ix2 y⟩
  have h := View.read_writes_cons_emb (Val := Elt F) (oChunkK L k 1).view fc (Rect.whole S4x128)
    (ReadAs.same.apply ((obK1).view.read (Elt F) fob)) [] (ix2 r' j : S4x128.Idx)
  rw [Rect.emb_whole_apply, View.read_apply, ReadAs.apply_same, View.read_apply] at h
  simp only [cast_eq] at h
  have hrow : 640 * (L 1).val + 320 * (L 0).val + 8 * k.val + 4 * (1 : Fin 2).val + r'.val < 10240 := by
    have := r'.isLt; show 640 * (L 1).val + 320 * (L 0).val + 8 * k.val + 4 * 1 + r'.val < 10240; omega
  rw [h, obK1_emb r' j, hs r' j r'.isLt, rowSum_eq L Tx Ix (4 * (2 * k.val + 1) + r'.val) (by have := r'.isLt; omega) j,
    oChunk_emb L k 1 r' j hrow]
  congr 2
  exact Fin.ext (by
    show 320 * (2 * (L 1).val + (L 0).val) + (4 * (2 * k.val + 1) + r'.val) = 640 * (L 1).val + 320 * (L 0).val + 8 * k.val + 4 * 1 + r'.val
    omega)

end Chunk

end Cert.Proof.Tile2

end
-- ==== Proof.BodyTripVC2.lean ====
/-
  One trip of the gather-sum kernel's forty, with what the buffers hold: from the valued invariant to itself one trip on.
  The slot's gather leaves the table rows its index chunk names; the inner loop leaves the four tree sums; the copy-out's
  chunk holds its rows of the neighbour-sum array.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC2
import proofs.«205366_g3083786518796_cont_9to1_852_38_alg».proof.Proof.BodyLemmasC2
import proofs.«205366_g3083786518796_cont_9to1_852_38_alg».proof.Proof.BodyInvC2
import proofs.«205366_g3083786518796_cont_9to1_852_38_alg».proof.Proof.BodyJoinC2
import proofs.«205366_g3083786518796_cont_9to1_852_38_alg».proof.Proof.GSum
import proofs.«205366_g3083786518796_cont_9to1_852_38_alg».proof.Proof.BodyInvVC2
import proofs.«205366_g3083786518796_cont_9to1_852_38_alg».proof.Proof.BodyTripC2
import proofs.«205366_g3083786518796_cont_9to1_852_38_alg».proof.Proof.BodyStepVC2
import proofs.«205366_g3083786518796_cont_9to1_852_38_alg».proof.Proof.BodyInnerVC2
import proofs.«205366_g3083786518796_cont_9to1_852_38_alg».proof.Proof.BodyStepsVC2
import Idealize.ShloMosaic.Lib.ValueIdx

noncomputable section

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

section Body
variable (d : Dev nD) (L : grid5.Coords)

open Idealize.ShloMosaic.ValueIdx (ix1 ix2 ix3)

set_option maxHeartbeats 8000000 in
/-- The first trip: no copy-out is pending. -/
theorem trip0V (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (HR0f : ∀ (n : ℕ) (h : Buf (Elt F) ((V d (cV L) (jV L)).loc cc5_scratch1)) (_ : RowsOK L Tx Ix 0 n h) (k : Fin k5_t1_loop.trips) (v2 : BitVec 32) (k2 : Fin k5_t2_loop.trips) (x : PUnit),
      innerInv0 (U := U) d L Tx Ix Finset.univ n h k2.val x ⊢ wp frame (wpE (defs₀ (F := F)) 𝒱₀ (V d (cV L) (jV L)) none) Set.univ
        (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k k2 x) (fun y => innerInv0 (U := U) d L Tx Ix Finset.univ n h (k2.val + 1) y))
    (HR0 : ∀ (n : ℕ) (h : Buf (Elt F) ((V d (cV L) (jV L)).loc cc5_scratch1)) (_ : RowsOK L Tx Ix 0 n h) (k : Fin k5_t1_loop.trips) (v2 : BitVec 32) (k2 : Fin k5_t2_loop.trips) (x : PUnit),
      innerInv0 (U := U) d L Tx Ix (Finset.univ \ (obK1).view.set) n h k2.val x ⊢ wp frame (wpE (defs₀ (F := F)) 𝒱₀ (V d (cV L) (jV L)) none) Set.univ
        (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k k2 x) (fun y => innerInv0 (U := U) d L Tx Ix (Finset.univ \ (obK1).view.set) n h (k2.val + 1) y))
    (HR1 : ∀ (n : ℕ) (h : Buf (Elt F) ((V d (cV L) (jV L)).loc cc5_scratch1)) (_ : RowsOK L Tx Ix 1 n h) (k : Fin k5_t1_loop.trips) (v2 arg11 : BitVec 32) (k3 : Fin k5_t3_loop.trips) (x : PUnit),
      innerInv1 (U := U) d L Tx Ix n h k3.val x ⊢ wp frame (wpE (defs₀ (F := F)) 𝒱₀ (V d (cV L) (jV L)) none) Set.univ
        (k5_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k arg11 k3 x) (fun y => innerInv1 (U := U) d L Tx Ix n h (k3.val + 1) y))
    (HG0 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 0 n (View.write (Elt F) (rwK0).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HG1 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 1 n (View.write (Elt F) (rwK1).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HC0 : ∀ (k : Fin k5_t1_loop.trips) (fc : S10240x128.Idx → Elt F .f32) (fob : S2x4x128.Idx → Elt F .f32), SumsOK L Tx Ix 0 (2 * k.val) 4 fob →
      ChunkOK L Tx Ix k 0 ((oChunkK L k 0).view.writes (Elt F) fc [⟨Rect.whole S4x128, ReadAs.same.apply ((obK0).view.read (Elt F) fob)⟩]))
    (HC1 : ∀ (k : Fin k5_t1_loop.trips) (fc : S10240x128.Idx → Elt F .f32) (fob : S2x4x128.Idx → Elt F .f32), SumsOK L Tx Ix 1 (2 * k.val + 1) 4 fob →
      ChunkOK L Tx Ix k 1 ((oChunkK L k 1).view.writes (Elt F) fc [⟨Rect.whole S4x128, ReadAs.same.apply ((obK1).view.read (Elt F) fob)⟩]))
    (O : CellTallies nD τ sig (HIx 3)) (W : Waits sig (HIx 3)) (v2 : BitVec 32)
    (k : Fin k5_t1_loop.trips) (hk : k.val = 0) (x : PUnit) :
    tripInvV (U := U) d L Tx Ix O W k.val x
      ⊢ wp frame (wpE (defs₀ (F := F)) 𝒱₀ (V d (cV L) (jV L)) none) Set.univ
          (k5_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k x)
          fun y => tripInvV (U := U) d L Tx Ix O W (k.val + 1) y := by
  have hc1 := cond1_zero hk
  have hc2 := cond2_zero hk
  have hrow : (k.val + 1 ≠ k.val) := Nat.succ_ne_self _
  unfold tripInvV
  rw [if_pos hk, if_pos hk]
  unfold gFl0 gFl1
  iintro ⟨#Hmw, ⟨%fr0, %fr1, %hrows, ⟨FG0, Hix0⟩, ⟨FG1, Hix1⟩⟩, ⟨%frr, Hrwr⟩, Hsh0, Hsh1, ⟨%fob, Hob, Hso0, Hso1⟩, Hrows, ⟨%W', %hW', HO⟩⟩
  ihave Hr := (Entails.of_eq (SparseCore.bigSep_erase' (Φ := fun t' : Fin k5_t1_loop.trips => rowStV (U := U) (F := F) d L Tx Ix k.val t') (Finset.mem_univ k))) $$ Hrows
  icases Hr with ⟨Hrow, Hrest⟩
  ihave Hrow' := (Entails.of_eq (rowStV_todo (F := F) (U := U) d L Tx Ix hrow (Nat.lt_irrefl _))) $$ Hrow
  icases Hrow' with ⟨⟨%fc0, Hoc0⟩, ⟨%fc1, Hoc1⟩⟩
  unfold k5_t1_body
  -- slot 0: its gather waited for
  sl_exec
  -- slot 0 of the row scratch, back from its gather, joined to what is held of the scratch
  ihave Hj := (pts_joinV (F := F) (U := U) (sdiff_join_disj rw_slots_disjoint) fr0 frr) $$ [FG0_dst Hrwr]
  · isplitl [FG0_dst]; · iexact FG0_dst
    iexact Hrwr
  icases Hj with ⟨%g1, %hg1, Hrw⟩
  have hr1 : RowsOK L Tx Ix 0 (2 * k.val) g1 := RowsOK_of_eq0 (F := F) L Tx Ix hrows.1 hg1
  rw [sdiff_join_left rw_slots_disjoint]
  -- the four sums of slot 0
  sl_for (innerInv0 (U := U) d L Tx Ix Finset.univ (2 * k.val) g1) $$ [Hrw Hob]
  case region =>
    intro k2 x2
    exact HR0f (2 * k.val) g1 hr1 k v2 k2 x2
  · unfold innerInv0
    iexists fob; isplitr; · ipureintro; exact SumsOK_zero (F := F) L Tx Ix 0 _ _
    isplitl [Hrw]; · iexact Hrw
    iexact Hob
  iintro %_ HI
  unfold innerInv0
  icases HI with ⟨%fobA, %hsA, Hrw, Hob⟩
  have hsA4 : SumsOK L Tx Ix 0 (2 * k.val) 4 fobA := hsA
  -- slot 0 copied out, its next gather started; slot 1's gather waited for
  sl_exec
  -- slot 1 of the row scratch joined
  ihave Hj := (pts_joinV (F := F) (U := U) (sdiff_join_disj rw_slots_disjoint.symm) fr1 _) $$ [FG1_dst Hrw]
  · isplitl [FG1_dst]; · iexact FG1_dst
    iexact Hrw
  icases Hj with ⟨%g2, %hg2, Hrw⟩
  have hr2 : RowsOK L Tx Ix 1 (2 * k.val + 1) g2 := RowsOK_of_eq1 (F := F) L Tx Ix hrows.2 hg2
  rw [sdiff_join_left rw_slots_disjoint.symm]
  -- the four sums of slot 1
  sl_for (innerInv1 (U := U) d L Tx Ix (2 * k.val + 1) g2) $$ [Hrw Hob]
  case region =>
    intro k3 x3
    exact HR1 (2 * k.val + 1) g2 hr2 k v2 _ k3 x3
  · unfold innerInv1
    iexists fobA; isplitr; · ipureintro; exact SumsOK_zero (F := F) L Tx Ix 1 _ _
    isplitl [Hrw]; · iexact Hrw
    iexact Hob
  iintro %_ HI
  unfold innerInv1
  icases HI with ⟨%fobB, %hsB, Hrw, Hob⟩
  have hsB4 : SumsOK L Tx Ix 1 (2 * k.val + 1) 4 fobB := hsB
  -- slot 1 copied out, its next gather started
  sl_exec
  sl_step
  -- the invariant, one trip on
  have h40 := lt_of_lt_of_eq k.isLt k5_trips_eq
  have hoff0 : k5_off21 k 0#32 = ![128 * (2 * (k.val + 1))] := by
    have h := k5_off21_eq k (0 : Fin 2)
    rw [show (BitVec.ofNat 32 ((0 : Fin 2) : ℕ)) = 0#32 from rfl] at h
    rw [h]; congr 1; simp; omega
  have hoff1 : k5_off21 k 1#32 = ![128 * (2 * (k.val + 1) + 1)] := by
    have h := k5_off21_eq k (1 : Fin 2)
    rw [show (BitVec.ofNat 32 ((1 : Fin 2) : ℕ)) = 1#32 from rfl] at h
    rw [h]; congr 1; simp; omega
  rw [if_neg (Nat.succ_ne_zero k.val), if_neg (Nat.succ_ne_zero k.val), Nat.add_sub_cancel, tFin_val]
  unfold oFl0 oFl1
  isplitr; · iexact Hmw
  isplitl [FG0 Hix0 FG1 Hix1]
  · iexists _; iexists _
    isplitr
    swap
    · isplitl [FG0 Hix0]
      · isplitl [FG0]; · iexact FG0
        iexact Hix0
      · isplitl [FG1]; · iexact FG1
        iexact Hix1
    ipureintro
    exact ⟨HG0 (2 * (k.val + 1)) (by omega) _ hoff0 _ _ _ _, HG1 (2 * (k.val + 1) + 1) (by omega) _ hoff1 _ _ _ _⟩
  isplitl [Hrw]; · iexists _; iexact Hrw
  isplitl [Hsh0]; · iexact Hsh0
  isplitl [Hsh1]; · iexact Hsh1
  isplitl [Hso0 Hso1 Hob]
  · iexists _; iexists _; iexists _; iexists _; iexists _
    isplitr
    swap
    · isplitl [Hso0]; · iexact Hso0
      isplitl [Hso1]; · iexact Hso1
      iexact Hob
    ipureintro
    exact ⟨HC0 k _ _ hsA4, HC1 k _ _ hsB4⟩
  isplitl [Hrest]; · iapply (rows_step0V (F := F) (U := U) d L Tx Ix k hk); iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
/-- A later trip: the previous trip's two copy-outs are pending. -/
theorem tripSV (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (HR0f : ∀ (n : ℕ) (h : Buf (Elt F) ((V d (cV L) (jV L)).loc cc5_scratch1)) (_ : RowsOK L Tx Ix 0 n h) (k : Fin k5_t1_loop.trips) (v2 : BitVec 32) (k2 : Fin k5_t2_loop.trips) (x : PUnit),
      innerInv0 (U := U) d L Tx Ix Finset.univ n h k2.val x ⊢ wp frame (wpE (defs₀ (F := F)) 𝒱₀ (V d (cV L) (jV L)) none) Set.univ
        (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k k2 x) (fun y => innerInv0 (U := U) d L Tx Ix Finset.univ n h (k2.val + 1) y))
    (HR0 : ∀ (n : ℕ) (h : Buf (Elt F) ((V d (cV L) (jV L)).loc cc5_scratch1)) (_ : RowsOK L Tx Ix 0 n h) (k : Fin k5_t1_loop.trips) (v2 : BitVec 32) (k2 : Fin k5_t2_loop.trips) (x : PUnit),
      innerInv0 (U := U) d L Tx Ix (Finset.univ \ (obK1).view.set) n h k2.val x ⊢ wp frame (wpE (defs₀ (F := F)) 𝒱₀ (V d (cV L) (jV L)) none) Set.univ
        (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k k2 x) (fun y => innerInv0 (U := U) d L Tx Ix (Finset.univ \ (obK1).view.set) n h (k2.val + 1) y))
    (HR1 : ∀ (n : ℕ) (h : Buf (Elt F) ((V d (cV L) (jV L)).loc cc5_scratch1)) (_ : RowsOK L Tx Ix 1 n h) (k : Fin k5_t1_loop.trips) (v2 arg11 : BitVec 32) (k3 : Fin k5_t3_loop.trips) (x : PUnit),
      innerInv1 (U := U) d L Tx Ix n h k3.val x ⊢ wp frame (wpE (defs₀ (F := F)) 𝒱₀ (V d (cV L) (jV L)) none) Set.univ
        (k5_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k arg11 k3 x) (fun y => innerInv1 (U := U) d L Tx Ix n h (k3.val + 1) y))
    (HG0 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 0 n (View.write (Elt F) (rwK0).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HG1 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 1 n (View.write (Elt F) (rwK1).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HC0 : ∀ (k : Fin k5_t1_loop.trips) (fc : S10240x128.Idx → Elt F .f32) (fob : S2x4x128.Idx → Elt F .f32), SumsOK L Tx Ix 0 (2 * k.val) 4 fob →
      ChunkOK L Tx Ix k 0 ((oChunkK L k 0).view.writes (Elt F) fc [⟨Rect.whole S4x128, ReadAs.same.apply ((obK0).view.read (Elt F) fob)⟩]))
    (HC1 : ∀ (k : Fin k5_t1_loop.trips) (fc : S10240x128.Idx → Elt F .f32) (fob : S2x4x128.Idx → Elt F .f32), SumsOK L Tx Ix 1 (2 * k.val + 1) 4 fob →
      ChunkOK L Tx Ix k 1 ((oChunkK L k 1).view.writes (Elt F) fc [⟨Rect.whole S4x128, ReadAs.same.apply ((obK1).view.read (Elt F) fob)⟩]))
    (O : CellTallies nD τ sig (HIx 3)) (W : Waits sig (HIx 3)) (v2 : BitVec 32)
    (k : Fin k5_t1_loop.trips) (hk : k.val ≠ 0) (x : PUnit) :
    tripInvV (U := U) d L Tx Ix O W k.val x
      ⊢ wp frame (wpE (defs₀ (F := F)) 𝒱₀ (V d (cV L) (jV L)) none) Set.univ
          (k5_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k x)
          fun y => tripInvV (U := U) d L Tx Ix O W (k.val + 1) y := by
  have hc1 := cond1_pos k hk
  have hc2 := cond2_pos k hk
  have hrow : (k.val + 1 ≠ k.val) := Nat.succ_ne_self _
  unfold tripInvV
  rw [if_neg hk, if_neg hk]
  unfold gFl0 gFl1 oFl0 oFl1
  iintro ⟨#Hmw, ⟨%fr0, %fr1, %hrows, ⟨FG0, Hix0⟩, ⟨FG1, Hix1⟩⟩, ⟨%frr, Hrwr⟩, Hsh0, Hsh1, ⟨%fob, %fc0p, %fc1p, %fob0, %fob1, %hchk, FO0, FO1, Hobr⟩, Hrows, ⟨%W', %hW', HO⟩⟩
  ihave Hr := (Entails.of_eq (SparseCore.bigSep_erase' (Φ := fun t' : Fin k5_t1_loop.trips => rowStV (U := U) (F := F) d L Tx Ix k.val t') (Finset.mem_univ k))) $$ Hrows
  icases Hr with ⟨Hrow, Hrest⟩
  ihave Hrow' := (Entails.of_eq (rowStV_todo (F := F) (U := U) d L Tx Ix hrow (Nat.lt_irrefl _))) $$ Hrow
  icases Hrow' with ⟨⟨%fc0, Hoc0⟩, ⟨%fc1, Hoc1⟩⟩
  unfold k5_t1_body
  -- slot 0: its gather waited for
  sl_exec
  -- slot 0 of the row scratch, back from its gather, joined to what is held of the scratch
  ihave Hj := (pts_joinV (F := F) (U := U) (sdiff_join_disj rw_slots_disjoint) fr0 frr) $$ [FG0_dst Hrwr]
  · isplitl [FG0_dst]; · iexact FG0_dst
    iexact Hrwr
  icases Hj with ⟨%g1, %hg1, Hrw⟩
  have hr1 : RowsOK L Tx Ix 0 (2 * k.val) g1 := RowsOK_of_eq0 (F := F) L Tx Ix hrows.1 hg1
  rw [sdiff_join_left rw_slots_disjoint]
  -- slot 0 of the result scratch, back from its copy-out, joined to what is held of the scratch
  ihave Hjo := (pts_join (F := F) (U := U) (sdiff_join_disj ob_slots_disjoint) fob0 fob) $$ [FO0_src Hobr]
  · isplitl [FO0_src]; · iexact FO0_src
    iexact Hobr
  icases Hjo with ⟨%go1, Hob⟩
  rw [sdiff_join_left ob_slots_disjoint]
  -- the four sums of slot 0
  sl_for (innerInv0 (U := U) d L Tx Ix (Finset.univ \ (obK1).view.set) (2 * k.val) g1) $$ [Hrw Hob]
  case region =>
    intro k2 x2
    exact HR0 (2 * k.val) g1 hr1 k v2 k2 x2
  · unfold innerInv0
    iexists go1; isplitr; · ipureintro; exact SumsOK_zero (F := F) L Tx Ix 0 _ _
    isplitl [Hrw]; · iexact Hrw
    iexact Hob
  iintro %_ HI
  unfold innerInv0
  icases HI with ⟨%fobA, %hsA, Hrw, Hob⟩
  have hsA4 : SumsOK L Tx Ix 0 (2 * k.val) 4 fobA := hsA
  -- slot 0 copied out, its next gather started; slot 1's gather waited for
  sl_exec
  -- slot 1 of the row scratch joined
  ihave Hj := (pts_joinV (F := F) (U := U) (sdiff_join_disj rw_slots_disjoint.symm) fr1 _) $$ [FG1_dst Hrw]
  · isplitl [FG1_dst]; · iexact FG1_dst
    iexact Hrw
  icases Hj with ⟨%g2, %hg2, Hrw⟩
  have hr2 : RowsOK L Tx Ix 1 (2 * k.val + 1) g2 := RowsOK_of_eq1 (F := F) L Tx Ix hrows.2 hg2
  rw [sdiff_join_left rw_slots_disjoint.symm]
  -- slot 1 of the result scratch joined
  ihave Hjo := (pts_join (F := F) (U := U) (sdiff_join_disj ob_slots_disjoint.symm) fob1 _) $$ [FO1_src Hob]
  · isplitl [FO1_src]; · iexact FO1_src
    iexact Hob
  icases Hjo with ⟨%go2, Hob⟩
  rw [sdiff_join_left ob_slots_disjoint.symm]
  -- the four sums of slot 1
  sl_for (innerInv1 (U := U) d L Tx Ix (2 * k.val + 1) g2) $$ [Hrw Hob]
  case region =>
    intro k3 x3
    exact HR1 (2 * k.val + 1) g2 hr2 k v2 _ k3 x3
  · unfold innerInv1
    iexists go2; isplitr; · ipureintro; exact SumsOK_zero (F := F) L Tx Ix 1 _ _
    isplitl [Hrw]; · iexact Hrw
    iexact Hob
  iintro %_ HI
  unfold innerInv1
  icases HI with ⟨%fobB, %hsB, Hrw, Hob⟩
  have hsB4 : SumsOK L Tx Ix 1 (2 * k.val + 1) 4 fobB := hsB
  -- slot 1 copied out, its next gather started
  sl_exec
  sl_step
  -- the invariant, one trip on
  have h40 := lt_of_lt_of_eq k.isLt k5_trips_eq
  have hoff0 : k5_off21 k 0#32 = ![128 * (2 * (k.val + 1))] := by
    have h := k5_off21_eq k (0 : Fin 2)
    rw [show (BitVec.ofNat 32 ((0 : Fin 2) : ℕ)) = 0#32 from rfl] at h
    rw [h]; congr 1; simp; omega
  have hoff1 : k5_off21 k 1#32 = ![128 * (2 * (k.val + 1) + 1)] := by
    have h := k5_off21_eq k (1 : Fin 2)
    rw [show (BitVec.ofNat 32 ((1 : Fin 2) : ℕ)) = 1#32 from rfl] at h
    rw [h]; congr 1; simp; omega
  rw [if_neg (Nat.succ_ne_zero k.val), if_neg (Nat.succ_ne_zero k.val), Nat.add_sub_cancel, tFin_val]

  isplitr; · iexact Hmw
  isplitl [FG0 Hix0 FG1 Hix1]
  · iexists _; iexists _
    isplitr
    swap
    · isplitl [FG0 Hix0]
      · isplitl [FG0]; · iexact FG0
        iexact Hix0
      · isplitl [FG1]; · iexact FG1
        iexact Hix1
    ipureintro
    exact ⟨HG0 (2 * (k.val + 1)) (by omega) _ hoff0 _ _ _ _, HG1 (2 * (k.val + 1) + 1) (by omega) _ hoff1 _ _ _ _⟩
  isplitl [Hrw]; · iexists _; iexact Hrw
  isplitl [Hsh0]; · iexact Hsh0
  isplitl [Hsh1]; · iexact Hsh1
  isplitl [FO0 FO1 Hob]
  · iexists _; iexists _; iexists _; iexists _; iexists _
    isplitr
    swap
    · isplitl [FO0]; · iexact FO0
      isplitl [FO1]; · iexact FO1
      iexact Hob
    ipureintro
    exact ⟨HC0 k _ _ hsA4, HC1 k _ _ hsB4⟩
  isplitl [Hrest FO0_dst FO1_dst]
  · iapply (rows_stepSV (F := F) (U := U) d L Tx Ix k hk fc0p fc1p hchk.1 hchk.2)
    isplitl [Hrest]; · iexact Hrest
    isplitl [FO0_dst]; · iexact FO0_dst
    iexact FO1_dst
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One trip of the forty, with what the buffers hold. -/
theorem trip_regionV (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k5_t1_loop.trips) (x : PUnit) :
    tripInvV (U := U) d L Tx Ix O W k.val x
      ⊢ wp frame (wpE (defs₀ (F := F)) 𝒱₀ (V d (cV L) (jV L)) none) Set.univ
          (k5_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k x)
          fun y => tripInvV (U := U) d L Tx Ix O W (k.val + 1) y := by
  by_cases hk : k.val = 0
  · exact trip0V (F := F) (U := U) d L Tx Ix hinR
      (fun n h hr k v2 k2 x => inner_region0_first (F := F) (U := U) d L Tx Ix n h hr k v2 k2 x)
      (fun n h hr k v2 k2 x => inner_region0 (F := F) (U := U) d L Tx Ix n h hr k v2 k2 x)
      (fun n h hr k v2 a k3 x => inner_region1 (F := F) (U := U) d L Tx Ix n h hr k v2 a k3 x)
      (fun n hn off hoff inb g hnum hin' => rows_ok0 (F := F) L Tx Ix n hn off hoff inb g hnum hin')
      (fun n hn off hoff inb g hnum hin' => rows_ok1 (F := F) L Tx Ix n hn off hoff inb g hnum hin')
      (fun k fc fob hs => chunk_ok0 (F := F) L Tx Ix k fc fob hs)
      (fun k fc fob hs => chunk_ok1 (F := F) L Tx Ix k fc fob hs)
      O W v2 k hk x
  · exact tripSV (F := F) (U := U) d L Tx Ix hinR
      (fun n h hr k v2 k2 x => inner_region0_first (F := F) (U := U) d L Tx Ix n h hr k v2 k2 x)
      (fun n h hr k v2 k2 x => inner_region0 (F := F) (U := U) d L Tx Ix n h hr k v2 k2 x)
      (fun n h hr k v2 a k3 x => inner_region1 (F := F) (U := U) d L Tx Ix n h hr k v2 a k3 x)
      (fun n hn off hoff inb g hnum hin' => rows_ok0 (F := F) L Tx Ix n hn off hoff inb g hnum hin')
      (fun n hn off hoff inb g hnum hin' => rows_ok1 (F := F) L Tx Ix n hn off hoff inb g hnum hin')
      (fun k fc fob hs => chunk_ok0 (F := F) L Tx Ix k fc fob hs)
      (fun k fc fob hs => chunk_ok1 (F := F) L Tx Ix k fc fob hs)
      O W v2 k hk x

end Body
end Cert.Proof.Tile2
end
-- ==== Proof.BodyGenC2.lean ====
/-
  The gather-sum kernel on one vector subcore, stated over ANY schedule of the barrier cells.

  The subcore's run uses the barrier's schedule only through five facts at the call's round: every sibling's cell names
  the subcore as a duty of the round, each such duty is one unit, the subcore's own round expects sixteen units, the
  staged stripe splits into what is kept and what the sixteen duties hand over, and what the subcore's own round
  collects is its read share of the whole shared table.  With these as hypotheses, and the round and the call's number
  as parameters, one text serves every call and whatever schedule the launch fixed.  The forty trips' step is a
  hypothesis too.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC2
import proofs.«205366_g3083786518796_cont_9to1_852_38_alg».proof.Proof.BodyLemmasC2
import proofs.«205366_g3083786518796_cont_9to1_852_38_alg».proof.Proof.BodyInvC2
import proofs.«205366_g3083786518796_cont_9to1_852_38_alg».proof.Proof.BodyJoinC2

noncomputable section

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

section Body
variable (d : Dev nD) (L : grid5.Coords)

/-- The barrier kit over a schedule `Rd`, for round `r` (call `q`): every subcore's cell invariant of its SparseCore, its duty
    token in every subcore's round `r`, that each has reached round `r`, its own position at the origin of round `r`, and
    the credit for the sixteen units of its own round. -/
def bkitR (EB : Emb (URounds (GSem nD τ sig) ℕ) (MT nD τ sig (HIx 3) (Elt F) ℕ U ℕ)) (Rd : Rounds.Schedule (GSem nD τ sig) ℕ 𝕄) (r : ℕ) (q : Fin 3) (d : Dev nD) (c : Fin τ.nSC) (i : Fin τ.nSub) : sProp 𝕄 :=
  iprop((∃ κ : GSem nD τ sig → ℕ, bigSep Finset.univ fun j : Fin (grid5.bound 1) =>
      cellInv EB Rd (κ (bcell d c (j.castLE hsub5))) (bcell d c (j.castLE hsub5)))
    ∗ (bigSep Finset.univ fun j : Fin (grid5.bound 1) => dutyTok EB (bcell d c (j.castLE hsub5)) r i.val)
    ∗ (bigSep Finset.univ fun j : Fin (grid5.bound 1) => reached (D := ℕ) EB (bcell d c (j.castLE hsub5)) r)
    ∗ atPos EB (bcell d c i) r (∅ : Finset ℕ) 0
    ∗ cred (tallyAt (bcell d c i) (some q) (grid5.bound 1)))

set_option maxHeartbeats 4000000 in
/-- The kernel on vector subcore `L`: the index row and the stripe copied in and waited for (the executor); the barrier
    (the stripe's read shares handed over, every stripe's received); the two first gathers; the forty trips (the invariant
    `tripInv`, each trip `trip_region`); the four last waits. -/
theorem tile_body_gen (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid5.bound 1), (jV L).val ∈ Rd.duties (bcell d (cV L) (j.castLE hsub5)) rC)
    (hamt : ∀ j : Fin (grid5.bound 1), Rd.amount (bcell d (cV L) (j.castLE hsub5)) rC (jV L).val = 1)
    (hexp : 0 + grid5.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid5.bound 1) => Rd.payload (bcell d (cV L) (j.castLE hsub5)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (htrip : ∀ (v2 : BitVec 32) (k : Fin k5_t1_loop.trips) (x : PUnit),
      tripInv (F := F) (U := U) d L Tx Ix O
          (insert (SemLoc.reg sc_bar0, some qC) (insert (SemLoc.dma cc5_scoped1.sem, (default : HIx 3)) (insert (SemLoc.dma cc5_scoped0.sem, (default : HIx 3)) W))) k.val x
        ⊢ wp frame (wpE (defs₀ (F := F)) 𝒱₀ (V d (cV L) (jV L)) none) Set.univ
            (k5_t1_body L xV (Memref.isWhole_whole _) iV (Memref.isWhole_whole _) oV (Memref.isWhole_whole _)
              ixV (Memref.isWhole_whole _) rwV (Memref.isWhole_whole _) obV (Memref.isWhole_whole _) shV (Memref.isWhole_whole _)
              cc5_scratch4 cc5_scratch5 cc5_scoped0 cc5_scoped1 v2 k x)
            (tripInv (F := F) (U := U) d L Tx Ix O
              (insert (SemLoc.reg sc_bar0, some qC) (insert (SemLoc.dma cc5_scoped1.sem, (default : HIx 3)) (insert (SemLoc.dma cc5_scoped0.sem, (default : HIx 3)) W))) (k.val + 1)))
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f))
        ∗ (semVal (cell d L cc5_scoped0.sem) 0 ∗ semVal (cell d L cc5_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc5__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1)
          fun _ => iprop(tdT d L qx qi Tx Ix
            ∗ (atPos EB (bcell d (cV L) (jV L)) (rC + 1) (∅ : Finset ℕ) 0 ∗ reached (D := ℕ) EB (bcell d (cV L) (jV L)) (rC + 1))
            ∗ ((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f))
            ∗ (semVal (cell d L cc5_scoped0.sem) 0 ∗ semVal (cell d L cc5_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') := by
  simp only [cc5__sc_gather_sum_eq_skeleton]; unfold cc5__sc_gather_sum_skel
  unfold bkitR goT
  iintro ⟨#Hlv, ⟨⟨%κ, #Hinv⟩, Htoks, #Hrch, Hat, Hcred⟩, ⟨Hx, Hi, Ho, %fsh, Hsh⟩, ⟨⟨%f0, Hb0⟩, ⟨%f1, Hb1⟩, ⟨%f2, Hb2⟩⟩, ⟨HsA, HsB, Hg0, Hg1, Ho0, Ho1⟩, HO⟩
  have hO' : ∀ g, (O + oxV d (cV L) qC) g none = 0 := fun g => by rw [Pi.add_apply, Finsupp.add_apply, hO g, oxV_none]
  ihave Hmw1 := (show levAts (K (F := F)).L (K (F := F)).lev ⊢ Transfers.MayWaits (V d (cV L) (jV L)) (default : HIx 3) (O + oxV d (cV L) qC) from
    (K (F := F)).mayWaits_none (thr := V d (cV L) (jV L)) hO') $$ Hlv
  ihave Hmw2 := (show levAts (K (F := F)).L (K (F := F)).lev ⊢ Transfers.MayWaits (V d (cV L) (jV L)) (default : HIx 3) O from
    (K (F := F)).mayWaits_none (thr := V d (cV L) (jV L)) hO) $$ Hlv
  ihave Hx' := (Entails.of_eq (pts_x (F := F) (U := U) d L _ _).symm) $$ Hx
  ihave Hi' := (Entails.of_eq (pts_iRow (F := F) (U := U) d L _ _).symm) $$ Hi
  ihave Hsh' := (Entails.of_eq (pts_shStripe (F := F) (U := U) d L _ _).symm) $$ Hsh
  ihave Hix' := (Entails.of_eq (pts_ix (F := F) (U := U) d L _).symm) $$ Hb0
  ihave Hrw' := (Entails.of_eq (pts_rw (F := F) (U := U) d L _).symm) $$ Hb1
  ihave Hob' := (Entails.of_eq (pts_ob (F := F) (U := U) d L _).symm) $$ Hb2
  -- the index row into the index scratch, the stripe into the shared table, each waited for
  sl_exec (disch := first | exact View.amount_pos _ _ (stripe_numel_pos L) | exact View.dmaCredit_pos _ (stripe_numel_pos L))
  -- the barrier: the stripe, holding the table's rows, handed over by read shares; every stripe's share received
  unfold tile_body_gen.sl.dma0_1 tile_body_gen.sl.dma0
  ihave Hsh3 := (stripe_fix (F := F) (U := U) d L Tx fsh) $$ Hsh'
  ihave Hpk := hin_pay $$ Hsh3
  icases Hpk with ⟨Hkeep, Hpays⟩
  iapply (SparseCore.wp_subcoreBarrier 𝒱₀ none EB Rd d (sc := cV L) (i := jV L) sc_bar0 (grid5.bound 1) hsub5 (L 1) rfl κ (fun _ => rC) (jV L).val
      hmem hamt hexp (some qC) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) (8 * qC.val + 3) (fun p hp => by
        rw [Finset.mem_singleton] at hp; subst hp
        show (K (F := F)).lev (bcell d (cV L) (jV L)) (some qC) ≤ 8 * qC.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hrch1, Hgot⟩
  ihave Hall := hout_pay $$ Hgot
  -- the index scratch holds row `wid`; every window of it names rows of the table
  ihave Hix2 := (idx_fix (F := F) (U := U) d L Ix f0) $$ Hix'
  have hinR := idx_inb (F := F) L Ix hin
  ihave Hall' := (Entails.of_eq (show ((shV).view.loc (V d (cV L) (jV L)) ↦{shTok (jV L)} Tx : sProp 𝕄) = shLoc d (cV L) ↦{shTok (jV L)} Tx from rfl).symm) $$ Hall
  ihave HallS := (pointsTo_share (PosShare.mem_left_op_right (shTok (jV L)))).1 $$ Hall'
  icases HallS with ⟨HallA, HallB⟩
  ihave HixS := (pointsTo_share (PosShare.mem_left_op_right fullShare)).1 $$ Hix2
  icases HixS with ⟨HixA, HixB⟩
  -- the two first gathers
  sl_exec
  -- the forty trips
  sl_for (tripInv d L Tx Ix O (insert (SemLoc.reg sc_bar0, some qC) (insert (SemLoc.dma cc5_scoped1.sem, (default : HIx 3)) (insert (SemLoc.dma cc5_scoped0.sem, (default : HIx 3)) W)))) $$ [Hmw2 Hg0 Hg1 HixA HixB HallA HallB Hrw' Hob' Ho0 Ho1 Ho HO]
  case region =>
    intro k x
    unfold tile_body_gen.sl.prog.body_1
    exact htrip _ k x
  · unfold tripInv
    simp only [↓reduceIte]
    unfold gFl0 gFl1
    isplitr; · iexact Hmw2
    isplitl [Hg0 Hg1 HixA HixB]
    · iexists _; iexists _
      isplitl [Hg0 HixA]
      · isplitl [Hg0]; · iexact Hg0
        iexact HixA
      · isplitl [Hg1]; · iexact Hg1
        iexact HixB
    isplitl [Hrw']; · iexists _; iexact Hrw'
    isplitl [HallA]; · iexact HallA
    isplitl [HallB]; · iexact HallB
    isplitl [Hob' Ho0 Ho1]
    · iexists _
      isplitl [Hob']; · iexact Hob'
      isplitl [Ho0]; · iexact Ho0
      iexact Ho1
    isplitl [Ho]; · iapply (rows_of_chunks (F := F) (U := U) d L fo); iexact Ho
    iexists _; isplitr
    · ipureintro; exact fun p hp => .inl hp
    · iexact HO
  iintro %_ HI
  have htr : Scf.trips k5_t1_loop.lb k5_t1_loop.ub k5_t1_loop.st = 40 := by decide
  rw [htr]
  unfold tripInv
  simp only [show (40 : ℕ) ≠ 0 by decide, ↓reduceIte, show (40 : ℕ) - 1 = 39 by decide]
  unfold gFl0 gFl1 oFl0 oFl1
  icases HI with ⟨-, ⟨%fr0, %fr1, ⟨FG0, Hix0⟩, ⟨FG1, Hix1⟩⟩, ⟨%frr, Hrwr⟩, Hsh0, Hsh1, ⟨%fob, %fc0, %fc1, %fob0, %fob1, FO0, FO1, Hobr⟩, Hrows, ⟨%W', %hW', HO⟩⟩
  sl_exec
  sl_step
  unfold tdT
  -- the table's and the index row's shares, the result chunks, the shared table's read share and the kept remainder
  isplitl [Hx' Hi' Hrows FO0_dst FO1_dst Hsh0 Hsh1 Hkeep]
  · isplitl [Hx']; · iexact Hx'
    isplitl [Hi']; · iexact Hi'
    isplitl [Hrows FO0_dst FO1_dst]
    · iapply (rows_close (F := F) (U := U) d L fc0 fc1)
      isplitl [Hrows]; · iexact Hrows
      isplitl [FO0_dst]; · iexact FO0_dst
      iexact FO1_dst
    isplitl [Hsh0 Hsh1]
    · iapply (pointsTo_share (PosShare.mem_left_op_right (shTok (jV L)))).2
      isplitl [Hsh0]; · iexact Hsh0
      iexact Hsh1
    iexact Hkeep
  isplitl [Hat Hrch1]
  · isplitl [Hat]; · iexact Hat
    iexact Hrch1
  -- the scratches, whole again
  isplitl [Hix0 Hix1 FG0_dst FG1_dst Hrwr FO0_src FO1_src Hobr]
  · isplitl [Hix0 Hix1]
    · iexists _
      iapply (pointsTo_share (PosShare.mem_left_op_right fullShare)).2
      isplitl [Hix0]; · iexact Hix0
      iexact Hix1
    isplitl [FG0_dst FG1_dst Hrwr]
    · ihave H1 := (pts_join (F := F) (U := U) (sdiff_join_disj rw_slots_disjoint) fr0 frr) $$ [FG0_dst Hrwr]
      · isplitl [FG0_dst]; · iexact FG0_dst
        iexact Hrwr
      icases H1 with ⟨%g1, H1⟩
      rw [sdiff_join_left rw_slots_disjoint]
      ihave H2 := (pts_join (F := F) (U := U) Finset.disjoint_sdiff fr1 g1) $$ [FG1_dst H1]
      · isplitl [FG1_dst]; · iexact FG1_dst
        iexact H1
      icases H2 with ⟨%g2, H2⟩
      rw [sdiff_join_all]
      iexists g2; iexact H2
    · ihave H1 := (pts_join (F := F) (U := U) (sdiff_join_disj ob_slots_disjoint) fob0 fob) $$ [FO0_src Hobr]
      · isplitl [FO0_src]; · iexact FO0_src
        iexact Hobr
      icases H1 with ⟨%g1, H1⟩
      rw [sdiff_join_left ob_slots_disjoint]
      ihave H2 := (pts_join (F := F) (U := U) Finset.disjoint_sdiff fob1 g1) $$ [FO1_src H1]
      · isplitl [FO1_src]; · iexact FO1_src
        iexact H1
      icases H2 with ⟨%g2, H2⟩
      rw [sdiff_join_all]
      iexists g2; iexact H2
  -- the six semaphores at zero
  isplitl [HsA HsB FG0 FG1 FO0 FO1]
  · isplitl [HsA]; · iexact HsA
    isplitl [HsB]; · iexact HsB
    isplitl [FG0]; · iexact FG0
    isplitl [FG1]; · iexact FG1
    isplitl [FO0]; · iexact FO0
    iexact FO1
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

end Body
end Cert.Proof.Tile2
end
-- ==== Proof.BodyGenVC2.lean ====
/-
  The gather-sum kernel on one vector subcore, stated over ANY schedule of the barrier cells.

  The subcore's run uses the barrier's schedule only through five facts at the call's round: every sibling's cell names
  the subcore as a duty of the round, each such duty is one unit, the subcore's own round expects sixteen units, the
  staged stripe splits into what is kept and what the sixteen duties hand over, and what the subcore's own round
  collects is its read share of the whole shared table.  With these as hypotheses, and the round and the call's number
  as parameters, one text serves every call and whatever schedule the launch fixed.  The forty trips' step is a
  hypothesis too.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC2
import proofs.«205366_g3083786518796_cont_9to1_852_38_alg».proof.Proof.BodyLemmasC2
import proofs.«205366_g3083786518796_cont_9to1_852_38_alg».proof.Proof.BodyInvC2
import proofs.«205366_g3083786518796_cont_9to1_852_38_alg».proof.Proof.BodyJoinC2
import proofs.«205366_g3083786518796_cont_9to1_852_38_alg».proof.Proof.BodyGenC2
import proofs.«205366_g3083786518796_cont_9to1_852_38_alg».proof.Proof.BodyStepVC2
import proofs.«205366_g3083786518796_cont_9to1_852_38_alg».proof.Proof.BodyStepsVC2

noncomputable section

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

section Body
variable (d : Dev nD) (L : grid5.Coords)

open Idealize.ShloMosaic.ValueIdx (ix1 ix2 ix3)

section GV
variable (Tx : S10000x128.Idx → Elt F .f32) (Ix : S32x10496.Idx → Elt F .i32)

/-- Handed back, with what the chunks hold: as `tdT`, every result chunk at its rows of the neighbour-sum array. -/
def tdTV (qx qi : PosShare TreeShare) : sProp 𝕄 :=
  iprop((xLoc d ↦{qx} Tx) ∗ (iLoc d ↦[iRowSet L]{qi} Ix)
    ∗ (bigSep Finset.univ fun tb : Fin k5_t1_loop.trips × Fin 2 =>
        iprop(∃ f, (oLoc d ↦[oChunkSet L tb.1 tb.2]{fullShare} f) ∗ ⌜∀ x ∈ oChunkSet L tb.1 tb.2, f x = Cert.Proof.KI.gsumF (F := F) Tx Ix x⌝))
    ∗ (shLoc d (cV L) ↦{shTok (jV L)} Tx) ∗ (shLoc d (cV L) ↦[stripe (jL L)]{shKeep} Tx))

theorem rows_of_chunksV (fo : S10240x128.Idx → Elt F .f32) :
    (bigSep Finset.univ fun tb : Fin k5_t1_loop.trips × Fin 2 => (oLoc d ↦[oChunkSet L tb.1 tb.2]{fullShare} fo : sProp 𝕄))
    ⊢ bigSep Finset.univ fun t' : Fin k5_t1_loop.trips => rowStV (U := U) d L Tx Ix 0 t' := by
  rw [bigSep_univ_prod]
  refine bigSep_mono fun t' _ => ?_
  rw [bigSep_univ_two, rowStV_todo (F := F) (U := U) d L Tx Ix (Nat.succ_ne_zero _) (Nat.not_lt_zero _)]
  exact row_intro (F := F) (U := U) d L t' fo

theorem row_elimV (t' : Fin k5_t1_loop.trips) :
    (iprop((∃ f, ⌜ChunkOK L Tx Ix t' 0 f⌝ ∗ ((oChunkK L t' 0).view.loc (V d (cV L) (jV L)) ↦[(oChunkK L t' 0).view.set]{fullShare} f))
      ∗ (∃ f, ⌜ChunkOK L Tx Ix t' 1 f⌝ ∗ ((oChunkK L t' 1).view.loc (V d (cV L) (jV L)) ↦[(oChunkK L t' 1).view.set]{fullShare} f))) : sProp 𝕄)
    ⊢ iprop((∃ f, (oLoc d ↦[oChunkSet L t' 0]{fullShare} f) ∗ ⌜∀ x ∈ oChunkSet L t' 0, f x = Cert.Proof.KI.gsumF (F := F) Tx Ix x⌝)
        ∗ (∃ f, (oLoc d ↦[oChunkSet L t' 1]{fullShare} f) ∗ ⌜∀ x ∈ oChunkSet L t' 1, f x = Cert.Proof.KI.gsumF (F := F) Tx Ix x⌝)) := by
  iintro ⟨⟨%f0, %h0, H0⟩, ⟨%f1, %h1, H1⟩⟩
  isplitl [H0]
  · iexists f0; isplitl [H0]
    · iapply (Entails.of_eq (pts_oChunk (F := F) (U := U) d L t' 0 f0)); iexact H0
    · ipureintro; exact h0
  · iexists f1; isplitl [H1]
    · iapply (Entails.of_eq (pts_oChunk (F := F) (U := U) d L t' 1 f1)); iexact H1
    · ipureintro; exact h1

/-- All result chunks held again, each at its rows of the neighbour-sum array. -/
theorem rows_closeV (fc0 fc1 : S10240x128.Idx → Elt F .f32) (h0 : ChunkOK L Tx Ix (tFin 39) 0 fc0) (h1 : ChunkOK L Tx Ix (tFin 39) 1 fc1) :
    iprop((bigSep Finset.univ fun t' : Fin k5_t1_loop.trips => rowStV (U := U) (F := F) d L Tx Ix 40 t')
      ∗ ((oChunkK L (tFin 39) 0).view.loc (V d (cV L) (jV L)) ↦[(oChunkK L (tFin 39) 0).view.set]{fullShare} fc0)
      ∗ ((oChunkK L (tFin 39) 1).view.loc (V d (cV L) (jV L)) ↦[(oChunkK L (tFin 39) 1).view.set]{fullShare} fc1))
    ⊢ bigSep Finset.univ fun tb : Fin k5_t1_loop.trips × Fin 2 =>
        (iprop(∃ f, (oLoc d ↦[oChunkSet L tb.1 tb.2]{fullShare} f) ∗ ⌜∀ x ∈ oChunkSet L tb.1 tb.2, f x = Cert.Proof.KI.gsumF (F := F) Tx Ix x⌝) : sProp 𝕄) := by
  rw [bigSep_univ_prod]
  have hrest : Idealize.SL.BI.Entails
      (bigSep (Finset.univ.erase (tFin 39)) fun t' : Fin k5_t1_loop.trips => rowStV (U := U) (F := F) d L Tx Ix 40 t')
      (bigSep (Finset.univ.erase (tFin 39)) fun t' : Fin k5_t1_loop.trips => bigSep Finset.univ fun b : Fin 2 =>
        (iprop(∃ f, (oLoc d ↦[oChunkSet L (t', b).1 (t', b).2]{fullShare} f) ∗ ⌜∀ x ∈ oChunkSet L (t', b).1 (t', b).2, f x = Cert.Proof.KI.gsumF (F := F) Tx Ix x⌝) : sProp 𝕄)) :=
    bigSep_mono fun t' ht' => by
      have hne : t'.val + 1 ≠ 40 := fun h => (Finset.mem_erase.mp ht').1 (Fin.ext (by show t'.val = min 39 39; omega))
      have hlt : t'.val < 40 := lt_of_lt_of_eq t'.isLt k5_trips_eq
      rw [bigSep_univ_two, rowStV_done (F := F) (U := U) d L Tx Ix hne hlt]
      exact row_elimV (F := F) (U := U) d L Tx Ix t'
  iintro ⟨Hrows, H0, H1⟩
  ihave Hr := (Entails.of_eq (SparseCore.bigSep_erase' (Φ := fun t' : Fin k5_t1_loop.trips => rowStV (U := U) (F := F) d L Tx Ix 40 t') (Finset.mem_univ (tFin 39)))) $$ Hrows
  icases Hr with ⟨-, Hrest⟩
  iapply (Entails.of_eq (SparseCore.bigSep_erase' (Φ := fun t' : Fin k5_t1_loop.trips => bigSep Finset.univ fun b : Fin 2 =>
    (iprop(∃ f, (oLoc d ↦[oChunkSet L (t', b).1 (t', b).2]{fullShare} f) ∗ ⌜∀ x ∈ oChunkSet L (t', b).1 (t', b).2, f x = Cert.Proof.KI.gsumF (F := F) Tx Ix x⌝) : sProp 𝕄)) (Finset.mem_univ (tFin 39))).symm)
  isplitl [H0 H1]
  · rw [bigSep_univ_two]
    isplitl [H0]
    · iexists fc0; isplitl [H0]
      · iapply (Entails.of_eq (pts_oChunk (F := F) (U := U) d L (tFin 39) 0 fc0)); iexact H0
      · ipureintro; exact h0
    · iexists fc1; isplitl [H1]
      · iapply (Entails.of_eq (pts_oChunk (F := F) (U := U) d L (tFin 39) 1 fc1)); iexact H1
      · ipureintro; exact h1
  · iapply (SparseCore.ent hrest) $$ Hrest

end GV

set_option maxHeartbeats 4000000 in
/-- The kernel on vector subcore `L`: the index row and the stripe copied in and waited for (the executor); the barrier
    (the stripe's read shares handed over, every stripe's received); the two first gathers; the forty trips (the invariant
    `tripInv`, each trip `trip_region`); the four last waits. -/
theorem tile_body_genV (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid5.bound 1), (jV L).val ∈ Rd.duties (bcell d (cV L) (j.castLE hsub5)) rC)
    (hamt : ∀ j : Fin (grid5.bound 1), Rd.amount (bcell d (cV L) (j.castLE hsub5)) rC (jV L).val = 1)
    (hexp : 0 + grid5.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid5.bound 1) => Rd.payload (bcell d (cV L) (j.castLE hsub5)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (htrip : ∀ (v2 : BitVec 32) (k : Fin k5_t1_loop.trips) (x : PUnit),
      tripInvV (F := F) (U := U) d L Tx Ix O
          (insert (SemLoc.reg sc_bar0, some qC) (insert (SemLoc.dma cc5_scoped1.sem, (default : HIx 3)) (insert (SemLoc.dma cc5_scoped0.sem, (default : HIx 3)) W))) k.val x
        ⊢ wp frame (wpE (defs₀ (F := F)) 𝒱₀ (V d (cV L) (jV L)) none) Set.univ
            (k5_t1_body L xV (Memref.isWhole_whole _) iV (Memref.isWhole_whole _) oV (Memref.isWhole_whole _)
              ixV (Memref.isWhole_whole _) rwV (Memref.isWhole_whole _) obV (Memref.isWhole_whole _) shV (Memref.isWhole_whole _)
              cc5_scratch4 cc5_scratch5 cc5_scoped0 cc5_scoped1 v2 k x)
            (tripInvV (F := F) (U := U) d L Tx Ix O
              (insert (SemLoc.reg sc_bar0, some qC) (insert (SemLoc.dma cc5_scoped1.sem, (default : HIx 3)) (insert (SemLoc.dma cc5_scoped0.sem, (default : HIx 3)) W))) (k.val + 1)))
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f))
        ∗ (semVal (cell d L cc5_scoped0.sem) 0 ∗ semVal (cell d L cc5_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc5__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1)
          fun _ => iprop(tdTV d L Tx Ix qx qi
            ∗ (atPos EB (bcell d (cV L) (jV L)) (rC + 1) (∅ : Finset ℕ) 0 ∗ reached (D := ℕ) EB (bcell d (cV L) (jV L)) (rC + 1))
            ∗ ((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f))
            ∗ (semVal (cell d L cc5_scoped0.sem) 0 ∗ semVal (cell d L cc5_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') := by
  simp only [cc5__sc_gather_sum_eq_skeleton]; unfold cc5__sc_gather_sum_skel
  unfold bkitR goT
  iintro ⟨#Hlv, ⟨⟨%κ, #Hinv⟩, Htoks, #Hrch, Hat, Hcred⟩, ⟨Hx, Hi, Ho, %fsh, Hsh⟩, ⟨⟨%f0, Hb0⟩, ⟨%f1, Hb1⟩, ⟨%f2, Hb2⟩⟩, ⟨HsA, HsB, Hg0, Hg1, Ho0, Ho1⟩, HO⟩
  have hO' : ∀ g, (O + oxV d (cV L) qC) g none = 0 := fun g => by rw [Pi.add_apply, Finsupp.add_apply, hO g, oxV_none]
  ihave Hmw1 := (show levAts (K (F := F)).L (K (F := F)).lev ⊢ Transfers.MayWaits (V d (cV L) (jV L)) (default : HIx 3) (O + oxV d (cV L) qC) from
    (K (F := F)).mayWaits_none (thr := V d (cV L) (jV L)) hO') $$ Hlv
  ihave Hmw2 := (show levAts (K (F := F)).L (K (F := F)).lev ⊢ Transfers.MayWaits (V d (cV L) (jV L)) (default : HIx 3) O from
    (K (F := F)).mayWaits_none (thr := V d (cV L) (jV L)) hO) $$ Hlv
  ihave Hx' := (Entails.of_eq (pts_x (F := F) (U := U) d L _ _).symm) $$ Hx
  ihave Hi' := (Entails.of_eq (pts_iRow (F := F) (U := U) d L _ _).symm) $$ Hi
  ihave Hsh' := (Entails.of_eq (pts_shStripe (F := F) (U := U) d L _ _).symm) $$ Hsh
  ihave Hix' := (Entails.of_eq (pts_ix (F := F) (U := U) d L _).symm) $$ Hb0
  ihave Hrw' := (Entails.of_eq (pts_rw (F := F) (U := U) d L _).symm) $$ Hb1
  ihave Hob' := (Entails.of_eq (pts_ob (F := F) (U := U) d L _).symm) $$ Hb2
  -- the index row into the index scratch, the stripe into the shared table, each waited for
  sl_exec (disch := first | exact View.amount_pos _ _ (stripe_numel_pos L) | exact View.dmaCredit_pos _ (stripe_numel_pos L))
  -- the barrier: the stripe, holding the table's rows, handed over by read shares; every stripe's share received
  unfold tile_body_genV.sl.dma0_1 tile_body_genV.sl.dma0
  ihave Hsh3 := (stripe_fix (F := F) (U := U) d L Tx fsh) $$ Hsh'
  ihave Hpk := hin_pay $$ Hsh3
  icases Hpk with ⟨Hkeep, Hpays⟩
  iapply (SparseCore.wp_subcoreBarrier 𝒱₀ none EB Rd d (sc := cV L) (i := jV L) sc_bar0 (grid5.bound 1) hsub5 (L 1) rfl κ (fun _ => rC) (jV L).val
      hmem hamt hexp (some qC) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) (8 * qC.val + 3) (fun p hp => by
        rw [Finset.mem_singleton] at hp; subst hp
        show (K (F := F)).lev (bcell d (cV L) (jV L)) (some qC) ≤ 8 * qC.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hrch1, Hgot⟩
  ihave Hall := hout_pay $$ Hgot
  -- the index scratch holds row `wid`; every window of it names rows of the table
  ihave Hix2 := (idx_fix (F := F) (U := U) d L Ix f0) $$ Hix'
  have hinR := idx_inb (F := F) L Ix hin
  ihave Hall' := (Entails.of_eq (show ((shV).view.loc (V d (cV L) (jV L)) ↦{shTok (jV L)} Tx : sProp 𝕄) = shLoc d (cV L) ↦{shTok (jV L)} Tx from rfl).symm) $$ Hall
  ihave HallS := (pointsTo_share (PosShare.mem_left_op_right (shTok (jV L)))).1 $$ Hall'
  icases HallS with ⟨HallA, HallB⟩
  ihave HixS := (pointsTo_share (PosShare.mem_left_op_right fullShare)).1 $$ Hix2
  icases HixS with ⟨HixA, HixB⟩
  -- the two first gathers
  sl_exec
  -- the forty trips
  sl_for (tripInvV d L Tx Ix O (insert (SemLoc.reg sc_bar0, some qC) (insert (SemLoc.dma cc5_scoped1.sem, (default : HIx 3)) (insert (SemLoc.dma cc5_scoped0.sem, (default : HIx 3)) W)))) $$ [Hmw2 Hg0 Hg1 HixA HixB HallA HallB Hrw' Hob' Ho0 Ho1 Ho HO]
  case region =>
    intro k x
    unfold tile_body_genV.sl.prog.body_1
    exact htrip _ k x
  · unfold tripInvV
    simp only [↓reduceIte]
    unfold gFl0 gFl1
    isplitr; · iexact Hmw2
    isplitl [Hg0 Hg1 HixA HixB]
    · iexists _; iexists _
      isplitr
      swap
      · isplitl [Hg0 HixA]
        · isplitl [Hg0]; · iexact Hg0
          iexact HixA
        · isplitl [Hg1]; · iexact Hg1
          iexact HixB
      ipureintro
      exact ⟨rows_ok0 (F := F) L Tx Ix 0 (by omega) _ rfl _ _ _ _, rows_ok1 (F := F) L Tx Ix 1 (by omega) _ rfl _ _ _ _⟩
    isplitl [Hrw']; · iexists _; iexact Hrw'
    isplitl [HallA]; · iexact HallA
    isplitl [HallB]; · iexact HallB
    isplitl [Hob' Ho0 Ho1]
    · iexists _
      isplitl [Hob']; · iexact Hob'
      isplitl [Ho0]; · iexact Ho0
      iexact Ho1
    isplitl [Ho]; · iapply (rows_of_chunksV (F := F) (U := U) d L Tx Ix fo); iexact Ho
    iexists _; isplitr
    · ipureintro; exact fun p hp => .inl hp
    · iexact HO
  iintro %_ HI
  have htr : Scf.trips k5_t1_loop.lb k5_t1_loop.ub k5_t1_loop.st = 40 := by decide
  rw [htr]
  unfold tripInvV
  simp only [show (40 : ℕ) ≠ 0 by decide, ↓reduceIte, show (40 : ℕ) - 1 = 39 by decide]
  unfold gFl0 gFl1 oFl0 oFl1
  icases HI with ⟨-, ⟨%fr0, %fr1, -, ⟨FG0, Hix0⟩, ⟨FG1, Hix1⟩⟩, ⟨%frr, Hrwr⟩, Hsh0, Hsh1, ⟨%fob, %fc0, %fc1, %fob0, %fob1, %hchk, FO0, FO1, Hobr⟩, Hrows, ⟨%W', %hW', HO⟩⟩
  sl_exec
  sl_step
  unfold tdTV
  -- the table's and the index row's shares, the result chunks, the shared table's read share and the kept remainder
  isplitl [Hx' Hi' Hrows FO0_dst FO1_dst Hsh0 Hsh1 Hkeep]
  · isplitl [Hx']; · iexact Hx'
    isplitl [Hi']; · iexact Hi'
    isplitl [Hrows FO0_dst FO1_dst]
    · iapply (rows_closeV (F := F) (U := U) d L Tx Ix fc0 fc1 hchk.1 hchk.2)
      isplitl [Hrows]; · iexact Hrows
      isplitl [FO0_dst]; · iexact FO0_dst
      iexact FO1_dst
    isplitl [Hsh0 Hsh1]
    · iapply (pointsTo_share (PosShare.mem_left_op_right (shTok (jV L)))).2
      isplitl [Hsh0]; · iexact Hsh0
      iexact Hsh1
    iexact Hkeep
  isplitl [Hat Hrch1]
  · isplitl [Hat]; · iexact Hat
    iexact Hrch1
  -- the scratches, whole again
  isplitl [Hix0 Hix1 FG0_dst FG1_dst Hrwr FO0_src FO1_src Hobr]
  · isplitl [Hix0 Hix1]
    · iexists _
      iapply (pointsTo_share (PosShare.mem_left_op_right fullShare)).2
      isplitl [Hix0]; · iexact Hix0
      iexact Hix1
    isplitl [FG0_dst FG1_dst Hrwr]
    · ihave H1 := (pts_join (F := F) (U := U) (sdiff_join_disj rw_slots_disjoint) fr0 frr) $$ [FG0_dst Hrwr]
      · isplitl [FG0_dst]; · iexact FG0_dst
        iexact Hrwr
      icases H1 with ⟨%g1, H1⟩
      rw [sdiff_join_left rw_slots_disjoint]
      ihave H2 := (pts_join (F := F) (U := U) Finset.disjoint_sdiff fr1 g1) $$ [FG1_dst H1]
      · isplitl [FG1_dst]; · iexact FG1_dst
        iexact H1
      icases H2 with ⟨%g2, H2⟩
      rw [sdiff_join_all]
      iexists g2; iexact H2
    · ihave H1 := (pts_join (F := F) (U := U) (sdiff_join_disj ob_slots_disjoint) fob0 fob) $$ [FO0_src Hobr]
      · isplitl [FO0_src]; · iexact FO0_src
        iexact Hobr
      icases H1 with ⟨%g1, H1⟩
      rw [sdiff_join_left ob_slots_disjoint]
      ihave H2 := (pts_join (F := F) (U := U) Finset.disjoint_sdiff fob1 g1) $$ [FO1_src H1]
      · isplitl [FO1_src]; · iexact FO1_src
        iexact H1
      icases H2 with ⟨%g2, H2⟩
      rw [sdiff_join_all]
      iexists g2; iexact H2
  -- the six semaphores at zero
  isplitl [HsA HsB FG0 FG1 FO0 FO1]
  · isplitl [HsA]; · iexact HsA
    isplitl [HsB]; · iexact HsB
    isplitl [FG0]; · iexact FG0
    isplitl [FG1]; · iexact FG1
    isplitl [FO0]; · iexact FO0
    iexact FO1
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

end Body
end Cert.Proof.Tile2
end
-- ==== Proof.BodyFrameVC2.lean ====
/-
  The gather-sum kernel on one vector subcore, with what it computes: run from what the subcore is handed to what it hands
  back, every result chunk holding its rows of the neighbour-sum array; every trip of the forty proved.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.BodyDefsC2
import proofs.«205366_g3083786518796_cont_9to1_852_38_alg».proof.Proof.BodyLemmasC2
import proofs.«205366_g3083786518796_cont_9to1_852_38_alg».proof.Proof.BodyInvC2
import proofs.«205366_g3083786518796_cont_9to1_852_38_alg».proof.Proof.BodyJoinC2
import proofs.«205366_g3083786518796_cont_9to1_852_38_alg».proof.Proof.GSum
import proofs.«205366_g3083786518796_cont_9to1_852_38_alg».proof.Proof.BodyInvVC2
import proofs.«205366_g3083786518796_cont_9to1_852_38_alg».proof.Proof.BodyTripC2
import proofs.«205366_g3083786518796_cont_9to1_852_38_alg».proof.Proof.BodyStepVC2
import proofs.«205366_g3083786518796_cont_9to1_852_38_alg».proof.Proof.BodyInnerVC2
import proofs.«205366_g3083786518796_cont_9to1_852_38_alg».proof.Proof.BodyStepsVC2
import proofs.«205366_g3083786518796_cont_9to1_852_38_alg».proof.Proof.BodyTripVC2
import proofs.«205366_g3083786518796_cont_9to1_852_38_alg».proof.Proof.BodyGenVC2
import Idealize.ShloMosaic.Lib.ValueIdx

noncomputable section

namespace Cert.Proof.Tile2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.KernelIdeal.main_v14_0_scv : Memref Cert.KernelIdeal.sig Kind.scVector Space.hbm Cert.KernelIdeal.S10000x128 EltTy.f32)
local notation "iV" => (Memref.whole Cert.KernelIdeal.main_v7_scv : Memref Cert.KernelIdeal.sig Kind.scVector Space.hbm Cert.KernelIdeal.S32x10496 EltTy.i32)
local notation "oV" => (Memref.whole Cert.KernelIdeal.main_v15_scv : Memref Cert.KernelIdeal.sig Kind.scVector Space.hbm Cert.KernelIdeal.S10240x128 EltTy.f32)
local notation "ixV" => (Memref.whole Cert.KernelIdeal.cc5_scratch0 : Memref Cert.KernelIdeal.sig Kind.scVector Space.vmem Cert.KernelIdeal.S10496 EltTy.i32)
local notation "rwV" => (Memref.whole Cert.KernelIdeal.cc5_scratch1 : Memref Cert.KernelIdeal.sig Kind.scVector Space.vmem Cert.KernelIdeal.S2x128x128 EltTy.f32)
local notation "obV" => (Memref.whole Cert.KernelIdeal.cc5_scratch2 : Memref Cert.KernelIdeal.sig Kind.scVector Space.vmem Cert.KernelIdeal.S2x4x128 EltTy.f32)
local notation "shV" => (Memref.whole Cert.KernelIdeal.cc5_scratch3 : Memref Cert.KernelIdeal.sig Kind.scVector Space.shared Cert.KernelIdeal.S10000x128 EltTy.f32)

section Body
variable (d : Dev nD) (L : grid5.Coords)

open Idealize.ShloMosaic.ValueIdx (ix1 ix2 ix3)

/-- The kernel on vector subcore `L`, every trip proved, the result chunks at their sums. -/
theorem tile_body_frameV (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid5.bound 1), (jV L).val ∈ Rd.duties (bcell d (cV L) (j.castLE hsub5)) rC)
    (hamt : ∀ j : Fin (grid5.bound 1), Rd.amount (bcell d (cV L) (j.castLE hsub5)) rC (jV L).val = 1)
    (hexp : 0 + grid5.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid5.bound 1) => Rd.payload (bcell d (cV L) (j.castLE hsub5)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f))
        ∗ (semVal (cell d L cc5_scoped0.sem) 0 ∗ semVal (cell d L cc5_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc5__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1)
          fun _ => iprop(tdTV d L Tx Ix qx qi
            ∗ (atPos EB (bcell d (cV L) (jV L)) (rC + 1) (∅ : Finset ℕ) 0 ∗ reached (D := ℕ) EB (bcell d (cV L) (jV L)) (rC + 1))
            ∗ ((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f))
            ∗ (semVal (cell d L cc5_scoped0.sem) 0 ∗ semVal (cell d L cc5_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') :=
  tile_body_genV (F := F) (U := U) d L EB Rd rC qC qx qi Tx Ix fo hmem hamt hexp hin_pay hout_pay hin O W hO
    (fun v2 k x => trip_regionV (F := F) (U := U) d L Tx Ix (idx_inb (F := F) L Ix hin) O _ v2 k x) hOlev
end Body
end Cert.Proof.Tile2
end
-- ==== Proof.BodyChunksVal.lean ====
/-
  A worker's eighty result chunks, each holding its neighbour sums, are the worker's rows holding theirs.

  Each chunk comes back at some contents that agree, on the chunk, with the neighbour-sum array of the table and
  the index table.  Contents are read only on the set owned, so each chunk is held at that array; the eighty chunks
  are the worker's 320 rows; and the array's rows are, worker by worker, the tree sums the specification of a call
  asks for.
-/
import proofs.«205366_g3083786518796_cont_9to1_852_38_alg».proof.Proof.BodyCover
import proofs.«205366_g3083786518796_cont_9to1_852_38_alg».proof.Proof.GSum

noncomputable section

namespace Cert.Proof.Tile

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}
variable [FloatOps F]
variable {U : Type} [URA U] [CountersIn U]

local notation "𝕄" => MT nD τ sig (HIx 3) (Elt F) ℕ U ℕ

/-- One chunk at contents that are the neighbour sums on it is the chunk at the neighbour-sum array. -/
theorem oChunk_val (d : Dev nD) (L : grid0.Coords) (Tx : S10000x128.Idx → Elt F .f32) (Ix : S32x10496.Idx → Elt F .i32)
    (t : Fin k0_t1_loop.trips) (b : Fin 2) :
    (iprop(∃ f, (oLoc d ↦[oChunkSet L t b]{fullShare} f) ∗ ⌜∀ x ∈ oChunkSet L t b, f x = Cert.Proof.KI.gsumF (F := F) Tx Ix x⌝) : sProp 𝕄)
      ⊢ oLoc d ↦[oChunkSet L t b]{fullShare} (Cert.Proof.KI.gsumF (F := F) Tx Ix : Buf (Elt F) (oLoc d)) := by
  iintro ⟨%f, Hf, %hf⟩
  rw [← pointsTo_congr (ℓ := oLoc d) (q := fullShare) (I := oChunkSet L t b) (f := f) (g := (Cert.Proof.KI.gsumF (F := F) Tx Ix : Buf (Elt F) (oLoc d))) hf]
  iexact Hf

/-- The eighty chunks at their neighbour sums are the worker's rows at contents that are, row by row, the tree sums. -/
theorem oChunks_join_val (d : Dev nD) (L : grid0.Coords) (w : Fin 32) (hw : w.val = 2 * (L 1).val + (L 0).val)
    (Tx : S10000x128.Idx → Elt F .f32) (Ix : S32x10496.Idx → Elt F .i32) :
    (bigSep Finset.univ fun tb : Fin k0_t1_loop.trips × Fin 2 =>
        iprop(∃ f, (oLoc d ↦[oChunkSet L tb.1 tb.2]{fullShare} f) ∗ ⌜∀ x ∈ oChunkSet L tb.1 tb.2, f x = Cert.Proof.KI.gsumF (F := F) Tx Ix x⌝))
      ⊢ (iprop(∃ fo, (oLoc d ↦[(Cert.Proof.KI.outRect w).set]{fullShare} fo) ∗ ⌜Cert.Proof.KI.SumRel (F := F) w Tx Ix fo⌝) : sProp 𝕄) := by
  have h1 : (bigSep Finset.univ fun tb : Fin k0_t1_loop.trips × Fin 2 =>
        iprop(∃ f, (oLoc d ↦[oChunkSet L tb.1 tb.2]{fullShare} f) ∗ ⌜∀ x ∈ oChunkSet L tb.1 tb.2, f x = Cert.Proof.KI.gsumF (F := F) Tx Ix x⌝))
      ⊢ (bigSep Finset.univ fun tb : Fin k0_t1_loop.trips × Fin 2 =>
        oLoc d ↦[oChunkSet L tb.1 tb.2]{fullShare} (Cert.Proof.KI.gsumF (F := F) Tx Ix : Buf (Elt F) (oLoc d)) : sProp 𝕄) :=
    bigSep_mono fun tb _ => oChunk_val (F := F) (U := U) d L Tx Ix tb.1 tb.2
  have h2 : (oLoc d ↦[(Cert.Proof.KI.outRect w).set]{fullShare} (Cert.Proof.KI.gsumF (F := F) Tx Ix : Buf (Elt F) (oLoc d)) : sProp 𝕄)
      ⊢ (iprop(∃ fo, (oLoc d ↦[(Cert.Proof.KI.outRect w).set]{fullShare} fo) ∗ ⌜Cert.Proof.KI.SumRel (F := F) w Tx Ix fo⌝) : sProp 𝕄) := by
    iintro H
    iexists (Cert.Proof.KI.gsumF (F := F) Tx Ix : Buf (Elt F) (oLoc d))
    isplitl [H]; · iexact H
    ipureintro
    exact Cert.Proof.KI.gsumF_rel (F := F) Tx Ix w
  exact h1.trans ((Entails.of_eq (oPts_chunks (F := F) (U := U) d L w hw (Cert.Proof.KI.gsumF (F := F) Tx Ix : Buf (Elt F) (oLoc d))).symm).trans h2)

end Cert.Proof.Tile

end
-- ==== Proof.BodyChunksValC1.lean ====
/-
  A worker's eighty result chunks, each holding its neighbour sums, are the worker's rows holding theirs.

  Each chunk comes back at some contents that agree, on the chunk, with the neighbour-sum array of the table and
  the index table.  Contents are read only on the set owned, so each chunk is held at that array; the eighty chunks
  are the worker's 320 rows; and the array's rows are, worker by worker, the tree sums the specification of a call
  asks for.
-/
import proofs.«205366_g3083786518796_cont_9to1_852_38_alg».proof.Proof.BodyCoverC1
import proofs.«205366_g3083786518796_cont_9to1_852_38_alg».proof.Proof.GSum

noncomputable section

namespace Cert.Proof.Tile1

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}
variable [FloatOps F]
variable {U : Type} [URA U] [CountersIn U]

local notation "𝕄" => MT nD τ sig (HIx 3) (Elt F) ℕ U ℕ

/-- One chunk at contents that are the neighbour sums on it is the chunk at the neighbour-sum array. -/
theorem oChunk_val (d : Dev nD) (L : grid3.Coords) (Tx : S10000x128.Idx → Elt F .f32) (Ix : S32x10496.Idx → Elt F .i32)
    (t : Fin k3_t1_loop.trips) (b : Fin 2) :
    (iprop(∃ f, (oLoc d ↦[oChunkSet L t b]{fullShare} f) ∗ ⌜∀ x ∈ oChunkSet L t b, f x = Cert.Proof.KI.gsumF (F := F) Tx Ix x⌝) : sProp 𝕄)
      ⊢ oLoc d ↦[oChunkSet L t b]{fullShare} (Cert.Proof.KI.gsumF (F := F) Tx Ix : Buf (Elt F) (oLoc d)) := by
  iintro ⟨%f, Hf, %hf⟩
  rw [← pointsTo_congr (ℓ := oLoc d) (q := fullShare) (I := oChunkSet L t b) (f := f) (g := (Cert.Proof.KI.gsumF (F := F) Tx Ix : Buf (Elt F) (oLoc d))) hf]
  iexact Hf

/-- The eighty chunks at their neighbour sums are the worker's rows at contents that are, row by row, the tree sums. -/
theorem oChunks_join_val (d : Dev nD) (L : grid3.Coords) (w : Fin 32) (hw : w.val = 2 * (L 1).val + (L 0).val)
    (Tx : S10000x128.Idx → Elt F .f32) (Ix : S32x10496.Idx → Elt F .i32) :
    (bigSep Finset.univ fun tb : Fin k3_t1_loop.trips × Fin 2 =>
        iprop(∃ f, (oLoc d ↦[oChunkSet L tb.1 tb.2]{fullShare} f) ∗ ⌜∀ x ∈ oChunkSet L tb.1 tb.2, f x = Cert.Proof.KI.gsumF (F := F) Tx Ix x⌝))
      ⊢ (iprop(∃ fo, (oLoc d ↦[(Cert.Proof.KI.outRect w).set]{fullShare} fo) ∗ ⌜Cert.Proof.KI.SumRel (F := F) w Tx Ix fo⌝) : sProp 𝕄) := by
  have h1 : (bigSep Finset.univ fun tb : Fin k3_t1_loop.trips × Fin 2 =>
        iprop(∃ f, (oLoc d ↦[oChunkSet L tb.1 tb.2]{fullShare} f) ∗ ⌜∀ x ∈ oChunkSet L tb.1 tb.2, f x = Cert.Proof.KI.gsumF (F := F) Tx Ix x⌝))
      ⊢ (bigSep Finset.univ fun tb : Fin k3_t1_loop.trips × Fin 2 =>
        oLoc d ↦[oChunkSet L tb.1 tb.2]{fullShare} (Cert.Proof.KI.gsumF (F := F) Tx Ix : Buf (Elt F) (oLoc d)) : sProp 𝕄) :=
    bigSep_mono fun tb _ => oChunk_val (F := F) (U := U) d L Tx Ix tb.1 tb.2
  have h2 : (oLoc d ↦[(Cert.Proof.KI.outRect w).set]{fullShare} (Cert.Proof.KI.gsumF (F := F) Tx Ix : Buf (Elt F) (oLoc d)) : sProp 𝕄)
      ⊢ (iprop(∃ fo, (oLoc d ↦[(Cert.Proof.KI.outRect w).set]{fullShare} fo) ∗ ⌜Cert.Proof.KI.SumRel (F := F) w Tx Ix fo⌝) : sProp 𝕄) := by
    iintro H
    iexists (Cert.Proof.KI.gsumF (F := F) Tx Ix : Buf (Elt F) (oLoc d))
    isplitl [H]; · iexact H
    ipureintro
    exact Cert.Proof.KI.gsumF_rel (F := F) Tx Ix w
  exact h1.trans ((Entails.of_eq (oPts_chunks (F := F) (U := U) d L w hw (Cert.Proof.KI.gsumF (F := F) Tx Ix : Buf (Elt F) (oLoc d))).symm).trans h2)

end Cert.Proof.Tile1

end
-- ==== Proof.BodyChunksValC2.lean ====
/-
  A worker's eighty result chunks, each holding its neighbour sums, are the worker's rows holding theirs.

  Each chunk comes back at some contents that agree, on the chunk, with the neighbour-sum array of the table and
  the index table.  Contents are read only on the set owned, so each chunk is held at that array; the eighty chunks
  are the worker's 320 rows; and the array's rows are, worker by worker, the tree sums the specification of a call
  asks for.
-/
import proofs.«205366_g3083786518796_cont_9to1_852_38_alg».proof.Proof.BodyCoverC2
import proofs.«205366_g3083786518796_cont_9to1_852_38_alg».proof.Proof.GSum

noncomputable section

namespace Cert.Proof.Tile2

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}
variable [FloatOps F]
variable {U : Type} [URA U] [CountersIn U]

local notation "𝕄" => MT nD τ sig (HIx 3) (Elt F) ℕ U ℕ

/-- One chunk at contents that are the neighbour sums on it is the chunk at the neighbour-sum array. -/
theorem oChunk_val (d : Dev nD) (L : grid5.Coords) (Tx : S10000x128.Idx → Elt F .f32) (Ix : S32x10496.Idx → Elt F .i32)
    (t : Fin k5_t1_loop.trips) (b : Fin 2) :
    (iprop(∃ f, (oLoc d ↦[oChunkSet L t b]{fullShare} f) ∗ ⌜∀ x ∈ oChunkSet L t b, f x = Cert.Proof.KI.gsumF (F := F) Tx Ix x⌝) : sProp 𝕄)
      ⊢ oLoc d ↦[oChunkSet L t b]{fullShare} (Cert.Proof.KI.gsumF (F := F) Tx Ix : Buf (Elt F) (oLoc d)) := by
  iintro ⟨%f, Hf, %hf⟩
  rw [← pointsTo_congr (ℓ := oLoc d) (q := fullShare) (I := oChunkSet L t b) (f := f) (g := (Cert.Proof.KI.gsumF (F := F) Tx Ix : Buf (Elt F) (oLoc d))) hf]
  iexact Hf

/-- The eighty chunks at their neighbour sums are the worker's rows at contents that are, row by row, the tree sums. -/
theorem oChunks_join_val (d : Dev nD) (L : grid5.Coords) (w : Fin 32) (hw : w.val = 2 * (L 1).val + (L 0).val)
    (Tx : S10000x128.Idx → Elt F .f32) (Ix : S32x10496.Idx → Elt F .i32) :
    (bigSep Finset.univ fun tb : Fin k5_t1_loop.trips × Fin 2 =>
        iprop(∃ f, (oLoc d ↦[oChunkSet L tb.1 tb.2]{fullShare} f) ∗ ⌜∀ x ∈ oChunkSet L tb.1 tb.2, f x = Cert.Proof.KI.gsumF (F := F) Tx Ix x⌝))
      ⊢ (iprop(∃ fo, (oLoc d ↦[(Cert.Proof.KI.outRect w).set]{fullShare} fo) ∗ ⌜Cert.Proof.KI.SumRel (F := F) w Tx Ix fo⌝) : sProp 𝕄) := by
  have h1 : (bigSep Finset.univ fun tb : Fin k5_t1_loop.trips × Fin 2 =>
        iprop(∃ f, (oLoc d ↦[oChunkSet L tb.1 tb.2]{fullShare} f) ∗ ⌜∀ x ∈ oChunkSet L tb.1 tb.2, f x = Cert.Proof.KI.gsumF (F := F) Tx Ix x⌝))
      ⊢ (bigSep Finset.univ fun tb : Fin k5_t1_loop.trips × Fin 2 =>
        oLoc d ↦[oChunkSet L tb.1 tb.2]{fullShare} (Cert.Proof.KI.gsumF (F := F) Tx Ix : Buf (Elt F) (oLoc d)) : sProp 𝕄) :=
    bigSep_mono fun tb _ => oChunk_val (F := F) (U := U) d L Tx Ix tb.1 tb.2
  have h2 : (oLoc d ↦[(Cert.Proof.KI.outRect w).set]{fullShare} (Cert.Proof.KI.gsumF (F := F) Tx Ix : Buf (Elt F) (oLoc d)) : sProp 𝕄)
      ⊢ (iprop(∃ fo, (oLoc d ↦[(Cert.Proof.KI.outRect w).set]{fullShare} fo) ∗ ⌜Cert.Proof.KI.SumRel (F := F) w Tx Ix fo⌝) : sProp 𝕄) := by
    iintro H
    iexists (Cert.Proof.KI.gsumF (F := F) Tx Ix : Buf (Elt F) (oLoc d))
    isplitl [H]; · iexact H
    ipureintro
    exact Cert.Proof.KI.gsumF_rel (F := F) Tx Ix w
  exact h1.trans ((Entails.of_eq (oPts_chunks (F := F) (U := U) d L w hw (Cert.Proof.KI.gsumF (F := F) Tx Ix : Buf (Elt F) (oLoc d))).symm).trans h2)

end Cert.Proof.Tile2

end
-- ==== Proof.ScTile.lean ====
/-
  Each vector subcore's task of call `q`, as the launch theorem asks it: from the task's operands, the tile's scoped
  storage, its barrier kit and what it owes, through the kernel's body, to the task's results.

  For each of the three calls the obligation is the body's statement over the launch's payloads; that follows from
  the body's statement in its own vocabulary with every result chunk at the neighbour sums, and from the eighty valued
  chunks being the worker's rows at contents related to the table and the index table as the launch asks.
-/
import proofs.«205366_g3083786518796_cont_9to1_852_38_alg».proof.Proof.ScTileAsm
import proofs.«205366_g3083786518796_cont_9to1_852_38_alg».proof.Proof.ScTileAsm1
import proofs.«205366_g3083786518796_cont_9to1_852_38_alg».proof.Proof.ScTileAsm2
import proofs.«205366_g3083786518796_cont_9to1_852_38_alg».proof.Proof.BodyFrameV
import proofs.«205366_g3083786518796_cont_9to1_852_38_alg».proof.Proof.BodyFrameVC1
import proofs.«205366_g3083786518796_cont_9to1_852_38_alg».proof.Proof.BodyFrameVC2
import proofs.«205366_g3083786518796_cont_9to1_852_38_alg».proof.Proof.BodyChunksVal
import proofs.«205366_g3083786518796_cont_9to1_852_38_alg».proof.Proof.BodyChunksValC1
import proofs.«205366_g3083786518796_cont_9to1_852_38_alg».proof.Proof.BodyChunksValC2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-! ## The kernel's body on one subcore, with the valued post, for each call: the body over the launch's barrier schedule,
whose five facts at the call's round are the launch's -/

theorem tileStmt0 : TileStmt0 (F := F) Tb Ib := fun d L qx qi fo O W hO hOlev hin =>
  Cert.Proof.Tile.tile_body_frameV (F := F) (U := UU) d L EB (bRd (F := F) Tb) 0 0 qx qi (Tb 0 d) (Ib d) fo
    (bar0_mem Tb d L) (bar0_amt Tb d L) (bar0_expect Tb d L) (bar0_pays_intro Tb d L (Tb 0 d) rfl) (bar0_pays_elim Tb d L (Tb 0 d) rfl)
    hin O W hO hOlev

theorem tileStmt1 : TileStmt1 (F := F) Tb Ib := fun d L qx qi fo O W hO hOlev hin =>
  Cert.Proof.Tile1.tile_body_frameV (F := F) (U := UU) d L EB (bRd (F := F) Tb) 1 1 qx qi (Tb 1 d) (Ib d) fo
    (bar1_mem Tb d L) (bar1_amt Tb d L) (bar1_expect Tb d L) (bar1_pays_intro Tb d L (Tb 1 d) rfl) (bar1_pays_elim Tb d L (Tb 1 d) rfl)
    hin O W hO hOlev

theorem tileStmt2 : TileStmt2 (F := F) Tb Ib := fun d L qx qi fo O W hO hOlev hin =>
  Cert.Proof.Tile2.tile_body_frameV (F := F) (U := UU) d L EB (bRd (F := F) Tb) 2 2 qx qi (Tb 2 d) (Ib d) fo
    (bar2_mem Tb d L) (bar2_amt Tb d L) (bar2_expect Tb d L) (bar2_pays_intro Tb d L (Tb 2 d) rfl) (bar2_pays_elim Tb d L (Tb 2 d) rfl)
    hin O W hO hOlev

/-! ## The eighty valued chunks are the worker's rows -/

theorem chunksVal0 : ChunksVal0 (F := F) := fun d L Tx Ix =>
  Cert.Proof.Tile.oChunks_join_val (F := F) (U := UU) d L (wid (cL0 L) (jL0 L)) (wid_eq L) Tx Ix

theorem chunksVal1 : ChunksVal1 (F := F) := fun d L Tx Ix =>
  Cert.Proof.Tile1.oChunks_join_val (F := F) (U := UU) d L (wid (cL1 L) (jL1 L)) (wid_eq1 L) Tx Ix

theorem chunksVal2 : ChunksVal2 (F := F) := fun d L Tx Ix =>
  Cert.Proof.Tile2.oChunks_join_val (F := F) (U := UU) d L (wid (cL2 L) (jL2 L)) (wid_eq2 L) Tx Ix

/-! ## The obligation -/

/-- Each vector subcore's task of call `q`. -/
theorem tileObl (q : Fin 3) : (K (F := F)).TileObl (D (F := F)) 𝒱 (P (F := F) Tb Ib) v₀ q :=
  match q with
  | 0 => tileObl0_of_body Tb Ib (bodySpec0_of_tile Tb Ib (tileStmt0 Tb Ib) chunksVal0)
  | 1 => tileObl1_of_body Tb Ib (bodySpec1_of_tile Tb Ib (tileStmt1 Tb Ib) chunksVal1)
  | 2 => tileObl2_of_body Tb Ib (bodySpec2_of_tile Tb Ib (tileStmt2 Tb Ib) chunksVal2)

end Cert.Proof.KI

end
-- ==== Proof.ScLaunch.lean ====
/-
  The launch: from each vector subcore's task (three kernels' obligations), how a SparseCore's operands split among its
  sixteen tasks, @main on the TensorCore (three SparseCore calls, four TensorCore regions, the host operations between
  them), and the launch element of the ghost state, to every weakly fair execution of the 35 threads terminating with
  the result array at the program's value and the argument arrays unchanged.
-/
import proofs.«205366_g3083786518796_cont_9to1_852_38_alg».proof.Proof.ScMain
import proofs.«205366_g3083786518796_cont_9to1_852_38_alg».proof.Proof.ScElem
import proofs.«205366_g3083786518796_cont_9to1_852_38_alg».proof.Proof.ScSplit
import proofs.«205366_g3083786518796_cont_9to1_852_38_alg».proof.Proof.ScTile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (m : (ℓ : Loc nD τ sig) → Buf (Elt F) ℓ) (ρ : Dev nD → PrngReg)

/-- Every weakly fair execution of the program's threads from `m` terminates, nothing faulting, with the result array at
    the program's value `ResOf m` and the argument arrays as they were — provided every index names a row. -/
theorem run_main [∀ e, Nonempty (Elt F e)] (hok : ∀ d w, IdxOk w (IbOf m d)) :
    θ_run (Cert.KernelIdeal.defs (F := F)) (Cert.KernelIdeal.threads (F := F)) ⟨m, fun _ => 0, ρ⟩ (QC m (ResOf m)) :=
  SparseCore.Cfg.θ_run_sc (K := K (F := F)) (D := D (F := F)) (𝒱 := 𝒱) (EH := EH) (P := P (F := F) (TbOf m) (IbOf m)) facts v₀
    (fun q hq => absurd (kind_eq q) (by rw [hq]; decide))
    (fun q _ => tileObl (TbOf m) (IbOf m) q)
    (fun q _ => vecSplit (TbOf m) (IbOf m) q)
    m ρ main (G (F := F)) (FIN m (ResOf m)) (u₀ (F := F)) (hu₀ (TbOf m) (IbOf m)) (hmain m ρ hok) (fq m (ResOf m)) (hfin m (ResOf m))
    (QC m (ResOf m)) (hQ m (ResOf m))

end Cert.Proof.KI

end
-- ==== Proof.PreEdge.lean ====
/-
  The edge array's range, read off the input-domain predicate at any float instance.

  The predicate is a conjunction whose last conjunct is the test "every edge word e satisfies 0 ≤ e and e ≤ 9999
  (signed)", a reduction by `and` into one word.  Only that conjunct is opened; the float tests are dropped, so
  nothing is asked of the float instance.
-/
import proofs.«205366_g3083786518796_cont_9to1_852_38_alg».proof.Proof.Gen.Pre_input_domain
import Idealize.ShloMosaic.Lib.ReduceAll
import Idealize.ShloMosaic.Lib.ValueIdx

namespace Cert.PreEdge

open Idealize.ShloMosaic Cert.Pre_input_domain

variable {F : FTy → Type} [FloatOps F]
variable [Facts]
open Facts

/-- Every edge word lies in 0 … 9999. -/
theorem edge_range (a0 : FVec F S10000x128 .f32) (a1 : IVec S2x320000 32)
    (a2 a3 a4 : FVec F S128x128 .f32) (a5 : FVec F S128 .f32)
    (a6 a7 a8 : FVec F S128x128 .f32) (a9 : FVec F S128 .f32)
    (a10 a11 a12 : FVec F S128x128 .f32) (a13 : FVec F S128 .f32)
    (h : fn (F := F) a0 a1 a2 a3 a4 a5 a6 a7 a8 a9 a10 a11 a12 a13 = fun _ => 1#1) :
    ∀ i, (0 : Int) ≤ (a1 i).toInt ∧ (a1 i).toInt ≤ 9999 := by
  haveI : Subsingleton S_.Idx := ⟨fun a b => funext fun d => d.elim0⟩
  have h0 := congrFun h ValueIdx.ix0
  dsimp only [fn, fn_part1, fn_part2, fn_part3, fn_part4, andi] at h0
  simp only [IntOp.andi_eq_one] at h0
  intro i
  have hi := Host.reduce_andi_all _ _ _ _ _ h0.2 i
  change IntOp.andi (IntOp.cmpi .sge (a1 i) 0#32) (IntOp.cmpi .sle (a1 i) 9999#32) = 1#1 at hi
  rw [IntOp.andi_eq_one, IntOp.cmpi_sge, IntOp.cmpi_sle] at hi
  have z0 : (0#32 : BitVec 32).toInt = 0 := by decide
  have z1 : (9999#32 : BitVec 32).toInt = 9999 := by decide
  rw [z0, z1] at hi
  exact hi

end Cert.PreEdge
-- ==== Proof.ScHok.lean ====
/-
  Every entry of the index table names a node, from the input-domain predicate.

  The predicate puts every edge word in 0 … 9999; the index table's entries are edge words or 0.
-/
import proofs.«205366_g3083786518796_cont_9to1_852_38_alg».proof.Proof.ScNames
import proofs.«205366_g3083786518796_cont_9to1_852_38_alg».proof.Proof.PreEdge
import proofs.«205366_g3083786518796_cont_9to1_852_38_alg».proof.Proof.IdxTerm

noncomputable section

namespace Cert.Proof.KI

open Cert.KernelIdeal Cert.KernelIdeal.Gen
open Idealize.ShloMosaic Idealize.SL.Sem

variable {F : FTy → Type} [FloatOps F]
variable [Cert.Pre_input_domain.Facts]

/-- Under the input-domain predicate on every device, every worker's index row names rows of the table. -/
theorem idxOk_of_pre (m : (ℓ : Loc nD τ sig) → Buf (Elt F) ℓ)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) = fun _ => 1#1) :
    ∀ d w, IdxOk w (IbOf m d) := by
  intro d w k
  unfold IbOf
  exact Cert.KernelIdeal.IdxTerm.idxOk _ (Cert.PreEdge.edge_range _ _ _ _ _ _ _ _ _ _ _ _ _ _ (hpre d)) w k

end Cert.Proof.KI

end
-- ==== Proof.ScSetupK.lean ====
/-
  The idealized kernel program as the SparseCore launch theorem sees it: three SparseCore calls (each a vector-subcore
  kernel on 2 SparseCores × 16 subcores) beside four TensorCore pipelines, the thread family's label table, and the
  resource algebra of the proof: the launch handshakes' rounds, the subcore-barrier cells' rounds, the TensorCore
  pipelines' staging cells' rounds, and the transfers' counters.
-/
import proofs.«205366_g3083786518796_cont_9to1_852_38_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«205366_g3083786518796_cont_9to1_852_38_alg».proof.Proof.Gen.Kernel
import proofs.«205366_g3083786518796_cont_9to1_852_38_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 4) fun p => (pcfgs (F := F) p).Adm
abbrev K : SparseCore.Cfg τ sig (ΛP (F := F)) 3 := sc (F := F)
theorem nSub_eq : ∀ q : Fin 3, (K (F := F)).nSub q = 16 := fun | 0 => rfl | 1 => rfl | 2 => rfl
theorem nCore_eq : ∀ q : Fin 3, (K (F := F)).nCore q = 2 := fun | 0 => rfl | 1 => rfl | 2 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The subcore-barrier cells' rounds. -/
abbrev UB : Type := URounds (GSem nD τ sig) ℕ
/-- The TensorCore pipelines' staging cells' rounds. -/
abbrev UR : Type := URounds (GSem nD τ sig) Unit
abbrev UU : Type := UH × (UB × (UR × Counters))

local notation "𝕄" => MT nD τ sig (HIx 3) (Elt F) ℕ UU ℕ

abbrev EH : Emb UH (MT nD τ sig (HIx 3) (Elt F) ℕ UU ℕ) := embL
def EB : Emb UB (MT nD τ sig (HIx 3) (Elt F) ℕ UU ℕ) :=
  ((Emb.inl : Emb UB (UB × (UR × Counters))).trans (Emb.inr : Emb (UB × (UR × Counters)) UU)).trans
    (uEmb (nD := nD) (sig := sig) (Ix := HIx 3) (Val := Elt F) (Name := ℕ) (U := UU) (Lvl := ℕ)).toEmb
instance EB_landsIn : (EB : Emb UB 𝕄).LandsIn (upEmb : UEmb _ 𝕄) := by unfold EB; infer_instance
def ER : Emb UR (MT nD τ sig (HIx 3) (Elt F) ℕ UU ℕ) :=
  ((((Emb.inl : Emb UR (UR × Counters)).trans (Emb.inr : Emb (UR × Counters) (UB × (UR × Counters)))).trans
      (Emb.inr : Emb (UB × (UR × Counters)) UU))).trans
    (uEmb (nD := nD) (sig := sig) (Ix := HIx 3) (Val := Elt F) (Name := ℕ) (U := UU) (Lvl := ℕ)).toEmb
instance ER_landsIn : (ER : Emb UR 𝕄).LandsIn (upEmb : UEmb _ 𝕄) := by unfold ER; infer_instance

end Cert.Proof.KB

end
-- ==== Proof.ScPayK.lean ====
/-
  What the launch handshakes carry, call by call, and the subcore-barrier cells' schedule.

  Call q (q = 0, 1, 2) sums, for each of the 10240 padded nodes, the 32 rows of the table T_q that the node's index
  row names.  Worker w = 2·i + c (tile i of SparseCore c) owns output rows [320·w, 320·w + 320), reads row w of the
  index table, and stages rows [624·i, 624·i + n_i) of the table into its SparseCore's shared buffer (n_i = 624, the
  last tile 640).  The payloads NAME the contents: call q's table holds `Tb q d` and the index table `Ib d` on device d — parameters here,
  instantiated by the launch with the pure terms of the launch memory that the program computes.  The result is stated
  as a relation between those contents and what the output rows hold.

  The barrier semaphore is one unscoped semaphore per tile, used by all three calls: cell j takes round q for call
  q, a unit duty per tile of its SparseCore.  "Cell j has reached round q" and each tile's position in its own cell
  travel with the handshakes from call to call (for q = 0 they are dealt at the launch).
-/
import proofs.«205366_g3083786518796_cont_9to1_852_38_alg».proof.Proof.ScSetupK
import Idealize.ShloMosaic.Lib.ValueIdx
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 3) (Elt F) ℕ UU ℕ

/-! ## Workers and their rows -/

/-- Tile `i` of SparseCore `c` is worker `2·i + c`. -/
def wid (c : Fin 2) (i : Fin 16) : Fin 32 := ⟨2 * i.val + c.val, by omega⟩

/-- How many table rows tile `i` stages: 624, the last tile 640. -/
def nStage (i : Fin 16) : ℕ := if i.val = 15 then 640 else 624

/-- Worker `w`'s 320 output rows, as a rectangle of the padded output. -/
def outRect (w : Fin 32) : Rect S10240x128 :=
  Rect.unit (s := S10240x128) ![320 * w.val, 0] ![320, 128] (by intro a; fin_cases a <;> simp <;> omega)

/-- Worker `w`'s row of the index table. -/
def idxRect (w : Fin 32) : Rect S32x10496 :=
  Rect.unit (s := S32x10496) ![w.val, 0] ![1, 10496] (by intro a; fin_cases a <;> simp <;> omega)

/-- The rows of the table (and of the shared buffer) tile `i` stages. -/
def stageRect (i : Fin 16) : Rect S10000x128 :=
  Rect.unit (s := S10000x128) ![624 * i.val, 0] ![nStage i, 128] (by intro a; fin_cases a <;> simp [nStage] <;> split <;> omega)

/-! ## The barrier cells and their schedule -/

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

theorem nSub_τ : τ.nSub = 16 := rfl
theorem nSC_τ : τ.nSC = 2 := rfl

/-! ## One call's payloads, over its locations

The definitions take the call's locations (the table, the index table, the output, the SparseCore's shared buffer),
a reader of the output's contents and writers of the others', so that one text serves the three calls. -/

/-- SparseCore `c`'s read token of a whole array, and tile `i`'s token of that. -/
abbrev coreShare (c : Fin 2) : PosShare TreeShare := shareTok fullShare 2 c
abbrev tileShare (c : Fin 2) (i : Fin 16) : PosShare TreeShare := shareTok (coreShare c) 16 i

/-- Every index worker `w` reads names a row of the table. -/
def IdxOk (w : Fin 32) (I : S32x10496.Idx → BitVec 32) : Prop := ∀ k : Fin 10496, (I (ValueIdx.ix2 w k)).toNat < 10000

/-- The balanced tree of additions the kernel sums 32 numbers with: five levels of pairwise sums. -/
def tree32 [FloatOps F] (v : Fin 32 → F .f32) : F .f32 :=
  let l1 : Fin 16 → F .f32 := fun t => FloatOps.addf (v ⟨2 * t.val, by omega⟩) (v ⟨2 * t.val + 1, by omega⟩)
  let l2 : Fin 8 → F .f32 := fun t => FloatOps.addf (l1 ⟨2 * t.val, by omega⟩) (l1 ⟨2 * t.val + 1, by omega⟩)
  let l3 : Fin 4 → F .f32 := fun t => FloatOps.addf (l2 ⟨2 * t.val, by omega⟩) (l2 ⟨2 * t.val + 1, by omega⟩)
  let l4 : Fin 2 → F .f32 := fun t => FloatOps.addf (l3 ⟨2 * t.val, by omega⟩) (l3 ⟨2 * t.val + 1, by omega⟩)
  FloatOps.addf (l4 0) (l4 1)

/-- What worker `w`'s output rows hold once its task is done: row `320·w + r`, lane `j`, is the tree sum over `k < 32` of
    the table's row named by entry `32·r + k` of the worker's index row, at lane `j`. -/
def SumRel [FloatOps F] (w : Fin 32) (Tc : S10000x128.Idx → F .f32) (I : S32x10496.Idx → BitVec 32) (O : S10240x128.Idx → F .f32) : Prop :=
  ∀ (r : Fin 320) (j : Fin 128),
    O (ValueIdx.ix2 ⟨320 * w.val + r.val, by omega⟩ j)
      = tree32 fun k : Fin 32 => Tc (ValueIdx.ix2 ⟨(I (ValueIdx.ix2 w ⟨32 * r.val + k.val, by omega⟩)).toNat % 10000, Nat.mod_lt _ (by decide)⟩ j)

/-- What travels from call to call for tile `(c, i)`'s barrier cell at round `q`: the tile's position at the origin of the
    round, and that the cell has reached it. -/
def barCarry (q : ℕ) (d : Dev nD) (c : Fin τ.nSC) (i : Fin τ.nSub) : sProp 𝕄 :=
  iprop(atPos EB (bcell d c i) q ∅ 0 ∗ reached EB (bcell d c i) q)

section Call

variable (ℓt ℓi ℓo : Loc nD τ sig) (ℓs : Fin τ.nSC → Loc nD τ sig)
variable (StS : (c : Fin τ.nSC) → Fin 16 → Finset (Idx (ℓs c))) (RowsO : Fin 32 → Finset (Idx ℓo))
variable (wrT : (S10000x128.Idx → F .f32) → Buf (Elt F) ℓt) (wrI : (S32x10496.Idx → BitVec 32) → Buf (Elt F) ℓi)
variable (rdO : Buf (Elt F) ℓo → S10240x128.Idx → F .f32) (wrS : (c : Fin τ.nSC) → (S10000x128.Idx → F .f32) → Buf (Elt F) (ℓs c))
variable (Tq : S10000x128.Idx → F .f32) (Iq : S32x10496.Idx → BitVec 32)

/-- A task's operands: read tokens of the table and of the index table (its own row's entries name rows of the table),
    its output rows, the rows of the shared buffer it stages, its own barrier position, and every sibling's "reached". -/
def goPay (q : ℕ) (d : Dev nD) (c : Fin 2) (i : Fin 16) : sProp 𝕄 :=
  iprop((ℓt ↦{tileShare c i} wrT Tq) ∗ (ℓi ↦{tileShare c i} wrI Iq) ∗ ⌜IdxOk (wid c i) Iq⌝
    ∗ (∃ fo, ℓo ↦[RowsO (wid c i)]{fullShare} fo) ∗ (∃ fs, ℓs (c.castLE (by decide)) ↦[StS (c.castLE (by decide)) i]{fullShare} fs)
    ∗ atPos EB (bcell d (c.castLE (by decide)) (i.castLE (by decide))) q ∅ 0
    ∗ bigSep Finset.univ fun j : Fin 16 => reached EB (bcell d (c.castLE (by decide)) (j.castLE (by decide))) q)

/-- A task's results: the tokens back, the output rows at the neighbour sums, a read token of the whole shared buffer
    (now the table's copy) and the kept remainder of the rows it staged, and its barrier cell moved on one round. -/
def tdPay [FloatOps F] (q : ℕ) (d : Dev nD) (c : Fin 2) (i : Fin 16) : sProp 𝕄 :=
  iprop((ℓt ↦{tileShare c i} wrT Tq) ∗ (ℓi ↦{tileShare c i} wrI Iq)
    ∗ (∃ fo, (ℓo ↦[RowsO (wid c i)]{fullShare} fo) ∗ ⌜SumRel (wid c i) Tq Iq (rdO fo)⌝)
    ∗ (ℓs (c.castLE (by decide)) ↦{shareTok fullShare 16 i} wrS (c.castLE (by decide)) Tq)
    ∗ (ℓs (c.castLE (by decide)) ↦[StS (c.castLE (by decide)) i]{shareDrop fullShare 16} wrS (c.castLE (by decide)) Tq)
    ∗ barCarry (q + 1) d (c.castLE (by decide)) (i.castLE (by decide)))

/-- A SparseCore's operands for the call: its read tokens of the table and of the index table (whose every entry names
    a row), its sixteen workers' output rows, and its tiles' barrier cells at round `q`. -/
def stPay (q : ℕ) (d : Dev nD) (c : Fin 2) : sProp 𝕄 :=
  iprop((ℓt ↦{coreShare c} wrT Tq) ∗ (ℓi ↦{coreShare c} wrI Iq) ∗ ⌜∀ w, IdxOk w Iq⌝
    ∗ (bigSep Finset.univ fun i : Fin 16 => iprop(∃ fo, ℓo ↦[RowsO (wid c i)]{fullShare} fo))
    ∗ bigSep Finset.univ fun i : Fin 16 => barCarry q d (c.castLE (by decide)) (i.castLE (by decide)))

/-- Its results: the tokens back and, for each of its workers, the output rows at the neighbour sums; the barrier
    cells one round on. -/
def dnPay [FloatOps F] (q : ℕ) (d : Dev nD) (c : Fin 2) : sProp 𝕄 :=
  iprop((ℓt ↦{coreShare c} wrT Tq) ∗ (ℓi ↦{coreShare c} wrI Iq)
    ∗ (bigSep Finset.univ fun i : Fin 16 => iprop(∃ fo, (ℓo ↦[RowsO (wid c i)]{fullShare} fo) ∗ ⌜SumRel (wid c i) Tq Iq (rdO fo)⌝))
    ∗ bigSep Finset.univ fun i : Fin 16 => barCarry (q + 1) d (c.castLE (by decide)) (i.castLE (by decide)))

/-- What tile `n`'s arrival hands tile `j` of SparseCore `c` across the barrier: a read token of the rows of the shared
    buffer it staged, which hold the table's rows. -/
def barPay (c : Fin τ.nSC) (j : Fin τ.nSub) (n : ℕ) : sProp 𝕄 :=
  if h : n < 16 then iprop(ℓs c ↦[StS c ⟨n, h⟩]{shareTok fullShare 16 (Fin.cast nSub_τ j)} wrS c Tq)
  else iprop(emp)

end Call

/-! ## The three calls' locations -/

/-- SparseCore `c`'s shared buffer of call `q`. -/
abbrev shRef0 (c : Fin τ.nSC) : DevRef τ sig := ⟨.shared, ⟨0, by decide⟩, c⟩
abbrev shRef1 (c : Fin τ.nSC) : DevRef τ sig := ⟨.shared, ⟨1, by decide⟩, c⟩
abbrev shRef2 (c : Fin τ.nSC) : DevRef τ sig := ⟨.shared, ⟨2, by decide⟩, c⟩

abbrev idxLoc (d : Dev nD) : Loc nD τ sig := (SparseCore.T d).loc main_v7
abbrev tab0 (d : Dev nD) : Loc nD τ sig := (SparseCore.T d).loc main_arg0
abbrev tab1 (d : Dev nD) : Loc nD τ sig := (SparseCore.T d).loc main_v11_0
abbrev tab2 (d : Dev nD) : Loc nD τ sig := (SparseCore.T d).loc main_v14_0
abbrev out0 (d : Dev nD) : Loc nD τ sig := (SparseCore.T d).loc main_v8
abbrev out1 (d : Dev nD) : Loc nD τ sig := (SparseCore.T d).loc main_v12
abbrev out2 (d : Dev nD) : Loc nD τ sig := (SparseCore.T d).loc main_v15
abbrev sh0 (d : Dev nD) (c : Fin τ.nSC) : Loc nD τ sig := (d, shRef0 c)
abbrev sh1 (d : Dev nD) (c : Fin τ.nSC) : Loc nD τ sig := (d, shRef1 c)
abbrev sh2 (d : Dev nD) (c : Fin τ.nSC) : Loc nD τ sig := (d, shRef2 c)

/-- The contents of an f32[10000,128], i32[32,10496], f32[10240,128] buffer ARE functions on its indices. -/
abbrev wrT0 (d : Dev nD) : (S10000x128.Idx → F .f32) → Buf (Elt F) (tab0 d) := fun f => f
abbrev wrT1 (d : Dev nD) : (S10000x128.Idx → F .f32) → Buf (Elt F) (tab1 d) := fun f => f
abbrev wrT2 (d : Dev nD) : (S10000x128.Idx → F .f32) → Buf (Elt F) (tab2 d) := fun f => f
abbrev wrI (d : Dev nD) : (S32x10496.Idx → BitVec 32) → Buf (Elt F) (idxLoc d) := fun f => f
abbrev rdO0 (d : Dev nD) : Buf (Elt F) (out0 d) → S10240x128.Idx → F .f32 := fun f => f
abbrev rdO1 (d : Dev nD) : Buf (Elt F) (out1 d) → S10240x128.Idx → F .f32 := fun f => f
abbrev rdO2 (d : Dev nD) : Buf (Elt F) (out2 d) → S10240x128.Idx → F .f32 := fun f => f
abbrev wrS0 (d : Dev nD) (c : Fin τ.nSC) : (S10000x128.Idx → F .f32) → Buf (Elt F) (sh0 d c) := fun f => f
abbrev wrS1 (d : Dev nD) (c : Fin τ.nSC) : (S10000x128.Idx → F .f32) → Buf (Elt F) (sh1 d c) := fun f => f
abbrev wrS2 (d : Dev nD) (c : Fin τ.nSC) : (S10000x128.Idx → F .f32) → Buf (Elt F) (sh2 d c) := fun f => f

-- The contents the payloads name: call `q`'s table on device `d`, and the index table.
variable (Tb : Fin 3 → Dev nD → S10000x128.Idx → F .f32) (Ib : Dev nD → S32x10496.Idx → BitVec 32)

/-- What the handshakes of call `q` carry. -/
def stQ (q : Fin 3) (d : Dev nD) (c : Fin 2) : sProp 𝕄 :=
  match q with
  | 0 => stPay (tab0 d) (idxLoc d) (out0 d) (fun w => (outRect w).set) (wrT0 d) (wrI d) (Tb 0 d) (Ib d) 0 d c
  | 1 => stPay (tab1 d) (idxLoc d) (out1 d) (fun w => (outRect w).set) (wrT1 d) (wrI d) (Tb 1 d) (Ib d) 1 d c
  | 2 => stPay (tab2 d) (idxLoc d) (out2 d) (fun w => (outRect w).set) (wrT2 d) (wrI d) (Tb 2 d) (Ib d) 2 d c
def dnQ [FloatOps F] (q : Fin 3) (d : Dev nD) (c : Fin 2) : sProp 𝕄 :=
  match q with
  | 0 => dnPay (tab0 d) (idxLoc d) (out0 d) (fun w => (outRect w).set) (wrT0 d) (wrI d) (rdO0 d) (Tb 0 d) (Ib d) 0 d c
  | 1 => dnPay (tab1 d) (idxLoc d) (out1 d) (fun w => (outRect w).set) (wrT1 d) (wrI d) (rdO1 d) (Tb 1 d) (Ib d) 1 d c
  | 2 => dnPay (tab2 d) (idxLoc d) (out2 d) (fun w => (outRect w).set) (wrT2 d) (wrI d) (rdO2 d) (Tb 2 d) (Ib d) 2 d c
def goQ (q : Fin 3) (d : Dev nD) (c : Fin 2) (i : Fin 16) : sProp 𝕄 :=
  match q with
  | 0 => goPay (tab0 d) (idxLoc d) (out0 d) (sh0 d) (fun _ n => (stageRect n).set) (fun w => (outRect w).set) (wrT0 d) (wrI d) (Tb 0 d) (Ib d) 0 d c i
  | 1 => goPay (tab1 d) (idxLoc d) (out1 d) (sh1 d) (fun _ n => (stageRect n).set) (fun w => (outRect w).set) (wrT1 d) (wrI d) (Tb 1 d) (Ib d) 1 d c i
  | 2 => goPay (tab2 d) (idxLoc d) (out2 d) (sh2 d) (fun _ n => (stageRect n).set) (fun w => (outRect w).set) (wrT2 d) (wrI d) (Tb 2 d) (Ib d) 2 d c i
def tdQ [FloatOps F] (q : Fin 3) (d : Dev nD) (c : Fin 2) (i : Fin 16) : sProp 𝕄 :=
  match q with
  | 0 => tdPay (tab0 d) (idxLoc d) (out0 d) (sh0 d) (fun _ n => (stageRect n).set) (fun w => (outRect w).set) (wrT0 d) (wrI d) (rdO0 d) (wrS0 d) (Tb 0 d) (Ib d) 0 d c i
  | 1 => tdPay (tab1 d) (idxLoc d) (out1 d) (sh1 d) (fun _ n => (stageRect n).set) (fun w => (outRect w).set) (wrT1 d) (wrI d) (rdO1 d) (wrS1 d) (Tb 1 d) (Ib d) 1 d c i
  | 2 => tdPay (tab2 d) (idxLoc d) (out2 d) (sh2 d) (fun _ n => (stageRect n).set) (fun w => (outRect w).set) (wrT2 d) (wrI d) (rdO2 d) (wrS2 d) (Tb 2 d) (Ib d) 2 d c i

/-! ## The barrier's schedule and kit -/

/-- Round `r` of a barrier cell belongs to call `r`. -/
def bPay (g : GSem nD τ sig) (r n : ℕ) : sProp 𝕄 :=
  match g with
  | ((d, .scVector c j), _) =>
    match r with
    | 0 => barPay (sh0 d) (fun _ n => (stageRect n).set) (wrS0 d) (Tb 0 d) c j n
    | 1 => barPay (sh1 d) (fun _ n => (stageRect n).set) (wrS1 d) (Tb 1 d) c j n
    | 2 => barPay (sh2 d) (fun _ n => (stageRect n).set) (wrS2 d) (Tb 2 d) c j n
    | _ => iprop(emp)
  | _ => iprop(emp)

/-- The barrier cells' schedule: three rounds on each, of one unit duty per tile of the SparseCore (named by its number). -/
def bRd : Rounds.Schedule (GSem nD τ sig) ℕ 𝕄 where
  duties g r := if isBar g ∧ r < 3 then (Finset.univ : Finset (Fin τ.nSub)).image Fin.val else ∅
  amount _ _ _ := 1
  payload g r n := bPay (F := F) Tb g r n
  amount_pos _ _ _ _ := Nat.one_pos

set_option synthInstance.maxHeartbeats 400000 in
instance bRd_payload_storable (g : GSem nD τ sig) (r n : ℕ) : BI.Storable (upEmb : UEmb _ 𝕄) ((bRd (F := F) Tb).payload g r n) := by
  show BI.Storable upEmb (bPay Tb g r n)
  unfold bPay
  rcases g with ⟨⟨d, _ | c | ⟨c, i⟩⟩, sm⟩ <;> dsimp only <;> (try infer_instance)
  rcases r with _ | _ | _ | r <;> (try dsimp only) <;> (try unfold barPay) <;> (repeat' split) <;> infer_instance

/-- What tile `(c, i)` owes for call `q`: a unit on every tile's barrier cell of its SparseCore. -/
def oxV (q : Fin 3) (d : Dev nD) (c : Fin τ.nSC) : CellTallies nD τ sig (HIx 3) :=
  ∑ j : Fin τ.nSub, tallyAt (bcell d c j) (some q) 1

theorem oxV_none (q : Fin 3) (d : Dev nD) (c : Fin τ.nSC) (g : GSem nD τ sig) : oxV q d c g none = 0 := by
  unfold oxV
  rw [Finset.sum_apply, Finsupp.finset_sum_apply]
  exact Finset.sum_eq_zero fun j _ => by rw [tallyAt_apply]; simp

theorem oxV_apply_pos {q : Fin 3} {d : Dev nD} {c : Fin τ.nSC} {g : GSem nD τ sig} {ι : HIx 3} (h : 0 < oxV q d c g ι) :
    ∃ j : Fin τ.nSub, g = bcell d c j ∧ ι = some q := by
  unfold oxV at h
  rw [Finset.sum_apply, Finsupp.finset_sum_apply] at h
  obtain ⟨j, _, hj⟩ := Finset.exists_ne_zero_of_sum_ne_zero (Nat.pos_iff_ne_zero.mp h)
  rw [tallyAt_apply] at hj
  refine ⟨j, ?_⟩
  by_contra hne
  apply hj
  rw [if_neg]
  rintro ⟨rfl, rfl⟩
  exact hne ⟨rfl, rfl⟩

/-- Tile `(c, i)`'s barrier kit for call `q`: every sibling cell's invariant, its duty token in every sibling's round `q`,
    and the credit for the sixteen units of its own round. -/
def bkit (q : Fin 3) (d : Dev nD) (c : Fin τ.nSC) (i : Fin τ.nSub) : sProp 𝕄 :=
  iprop((∃ κ : GSem nD τ sig → ℕ, bigSep Finset.univ fun j : Fin τ.nSub => cellInv EB (bRd (F := F) Tb) (κ (bcell d c j)) (bcell d c j))
    ∗ (bigSep Finset.univ fun j : Fin τ.nSub => dutyTok EB (bcell d c j) q.val i.val)
    ∗ cred (tallyAt (bcell d c i) (some q) 16))

/-! ## What the handshakes carry -/

/-- What a thread owes for call `q` beyond the handshakes: a tile its sixteen arrivals, the others nothing. -/
def oxOf (q : Fin 3) : Thread nD τ → CellTallies nD τ sig (HIx 3)
  | (d, .scVector c _) => oxV q d c
  | _ => 0
theorem oxOf_T (q : Fin 3) (d : Dev nD) : oxOf q (T d) = 0 := rfl
theorem oxOf_S (q : Fin 3) (d : Dev nD) (c : Fin τ.nSC) : oxOf q (S d c) = 0 := rfl
theorem oxOf_V (q : Fin 3) (d : Dev nD) (c : Fin τ.nSC) (i : Fin τ.nSub) : oxOf q (V d c i) = oxV q d c := rfl

/-- What a thread's proof consumes at call `q`: a tile its barrier kit. -/
def xOf (q : Fin 3) : Thread nD τ → sProp 𝕄
  | (d, .scVector c i) => bkit (F := F) Tb q d c i
  | _ => iprop(emp)

theorem kind_eq : ∀ q : Fin 3, (K (F := F)).kind q = .scVector := fun | 0 => rfl | 1 => rfl | 2 => rfl

variable [FloatOps F]

/-- The three calls' payloads; each tile's proof consumes its barrier kit for the call and owes its sixteen arrivals. -/
def P : (K (F := F)).Pay (nD := nD) (Val := Elt F) (Name := ℕ) (U := UU) where
  st := fun q d c => stQ Tb Ib q d (Fin.cast (nCore_eq q) c)
  dn := fun q d c => dnQ Tb Ib q d (Fin.cast (nCore_eq q) c)
  go := fun q d c i => goQ Tb Ib q d (Fin.cast (nCore_eq q) c) (Fin.cast (nSub_eq q) i)
  td := fun q d c i => tdQ Tb Ib q d (Fin.cast (nCore_eq q) c) (Fin.cast (nSub_eq q) i)
  x := xOf Tb
  ox := oxOf
  ox_band := by
    intro q thr g ι h
    rcases thr with ⟨d, _ | c | ⟨c, i⟩⟩
    · rw [show oxOf q (d, Proc.tc) = 0 from rfl] at h; exact absurd h (lt_irrefl 0)
    · rw [show oxOf q (d, Proc.scScalar c) = 0 from rfl] at h; exact absurd h (lt_irrefl 0)
    · rw [show oxOf q (d, Proc.scVector c i) = oxV q d c from rfl] at h
      obtain ⟨j, rfl, rfl⟩ := oxV_apply_pos h
      rw [(K (F := F)).lev_V_reg d c j (show (sc_bar0 : Sem sig) ≠ (K (F := F)).go from sc_bar0_ne_go)]; exact ⟨le_rfl, by omega⟩
  ox_tc := fun q d => oxOf_T q d
  ox_sc := fun q d c h => absurd (oxOf_S q d c) h
  ox_vc := fun q d c i _ => ⟨kind_eq q, (nCore_eq q).symm ▸ c.isLt, (nSub_eq q).symm ▸ i.isLt⟩

set_option synthInstance.maxHeartbeats 400000 in
instance stQ_storable (q : Fin 3) (d : Dev nD) (c : Fin 2) : BI.Storable (upEmb : UEmb _ 𝕄) (stQ (F := F) Tb Ib q d c) := by
  match q with
  | 0 => unfold stQ stPay barCarry; infer_instance
  | 1 => unfold stQ stPay barCarry; infer_instance
  | 2 => unfold stQ stPay barCarry; infer_instance
set_option synthInstance.maxHeartbeats 400000 in
instance dnQ_storable (q : Fin 3) (d : Dev nD) (c : Fin 2) : BI.Storable (upEmb : UEmb _ 𝕄) (dnQ (F := F) Tb Ib q d c) := by
  match q with
  | 0 => unfold dnQ dnPay barCarry; infer_instance
  | 1 => unfold dnQ dnPay barCarry; infer_instance
  | 2 => unfold dnQ dnPay barCarry; infer_instance
set_option synthInstance.maxHeartbeats 400000 in
instance goQ_storable (q : Fin 3) (d : Dev nD) (c : Fin 2) (i : Fin 16) : BI.Storable (upEmb : UEmb _ 𝕄) (goQ (F := F) Tb Ib q d c i) := by
  match q with
  | 0 => unfold goQ goPay; infer_instance
  | 1 => unfold goQ goPay; infer_instance
  | 2 => unfold goQ goPay; infer_instance
set_option synthInstance.maxHeartbeats 400000 in
instance tdQ_storable (q : Fin 3) (d : Dev nD) (c : Fin 2) (i : Fin 16) : BI.Storable (upEmb : UEmb _ 𝕄) (tdQ (F := F) Tb Ib q d c i) := by
  match q with
  | 0 => unfold tdQ tdPay barCarry; infer_instance
  | 1 => unfold tdQ tdPay barCarry; infer_instance
  | 2 => unfold tdQ tdPay barCarry; infer_instance

instance P_storable : (P (F := F) Tb Ib).IsStorable where
  st q d c := stQ_storable Tb Ib q d _
  dn q d c := dnQ_storable Tb Ib q d _
  go q d c i := goQ_storable Tb Ib q d _ _
  td q d c i := tdQ_storable Tb Ib q d _ _

end Cert.Proof.KB

end
-- ==== Proof.ScFinK.lean ====
/-
  The final reading of the launch: a full-share points-to of every argument array and of the result array, held
  together with the state interpretation, pins each array's physical contents to the contents the points-to names.
-/
import proofs.«205366_g3083786518796_cont_9to1_852_38_alg».proof.Proof.ScPayK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

/-- Whole TensorCore buffers `B` of device `d`, each held at the full share at contents `W`, agree with the physical
    memory under the state interpretation. -/
theorem tcBufs_agree (d : Dev nD) (s' : Phys nD τ sig (Elt F)) (W : (ℓ : Loc nD τ sig) → Buf (Elt F) ℓ) (B : Finset (Ref sig .tc)) :
    iprop((bigSep B fun b => ((SparseCore.T d).loc b ↦{fullShare} W ((SparseCore.T d).loc b) : sProp 𝕄)) ∗ SI s')
      ⊢ (⌜∀ b ∈ B, s'.mem.mem ((SparseCore.T d).loc b) = W ((SparseCore.T d).loc b)⌝ : sProp 𝕄) := by
  induction B using Finset.induction_on with
  | empty => iintro -; ipureintro; simp
  | insert b B hb ih =>
    rw [bigSep_insert hb]
    refine (show iprop((((SparseCore.T d).loc b ↦{fullShare} W ((SparseCore.T d).loc b))
        ∗ bigSep B fun b => ((SparseCore.T d).loc b ↦{fullShare} W ((SparseCore.T d).loc b) : sProp 𝕄)) ∗ SI s') ⊢ _ from ?_)
    iintro ⟨⟨Hb, HB⟩, HSI⟩
    ihave %h := (SI_pointsTo_agree (st := s') (ℓ := (SparseCore.T d).loc b) (I := Finset.univ) (q := fullShare)
        (f := W ((SparseCore.T d).loc b))) $$ [HSI Hb]
    · isplitl [HSI] <;> iassumption
    ihave %hB := ih $$ [HSI HB]
    · isplitl [HB] <;> iassumption
    ipureintro
    intro b' hb'
    rcases Finset.mem_insert.mp hb' with rfl | hb'
    · exact funext fun i => h i (Finset.mem_univ i)
    · exact hB b' hb'

/-- The program's argument arrays. -/
def argRefs : Finset (Ref sig .tc) :=
  {main_arg0, main_arg1, main_arg2, main_arg3, main_arg4, main_arg5, main_arg6, main_arg7, main_arg8, main_arg9, main_arg10, main_arg11, main_arg12, main_arg13}

/-- The contents of the f32[10000,128] result buffer ARE a function on its indices. -/
abbrev resLoc (d : Dev nD) : Loc nD τ sig := (SparseCore.T d).loc main_v17
abbrev wrRes (d : Dev nD) : (S10000x128.Idx → F .f32) → Buf (Elt F) (resLoc d) := fun f => f

variable (m : (ℓ : Loc nD τ sig) → Buf (Elt F) ℓ) (Res : Dev nD → S10000x128.Idx → F .f32)

/-- What @main ends holding: every argument array whole at the launch contents, and the result array whole at `Res`. -/
def FIN (d : Dev nD) : sProp 𝕄 :=
  iprop((bigSep argRefs fun b => ((SparseCore.T d).loc b ↦{fullShare} m ((SparseCore.T d).loc b) : sProp 𝕄))
    ∗ ((SparseCore.T d).loc main_v17 ↦{fullShare} wrRes d (Res d)))

/-- What the final state then says of device `d`. -/
def fq (d : Dev nD) (s' : Phys nD τ sig (Elt F)) : Prop :=
  (∀ b ∈ argRefs, s'.mem.mem ((SparseCore.T d).loc b) = m ((SparseCore.T d).loc b))
    ∧ s'.mem.mem ((SparseCore.T d).loc main_v17) = wrRes d (Res d)

theorem hfin (d : Dev nD) (s' : Phys nD τ sig (Elt F)) : iprop(FIN m Res d ∗ SI s') ⊢ (⌜fq m Res d s'⌝ : sProp 𝕄) := by
  unfold FIN fq
  iintro ⟨⟨HA, HR⟩, HSI⟩
  ihave %hr := (SI_pointsTo_agree (st := s') (ℓ := (SparseCore.T d).loc main_v17) (I := Finset.univ) (q := fullShare)
      (f := wrRes d (Res d))) $$ [HSI HR]
  · isplitl [HSI] <;> iassumption
  ihave %ha := (tcBufs_agree d s' m argRefs) $$ [HA HSI]
  · isplitl [HA] <;> iassumption
  ipureintro
  exact ⟨ha, funext fun i => hr i (Finset.mem_univ i)⟩

/-- The run's post: on every device the result array at `Res` and the fourteen argument arrays unchanged. -/
def QC : PUnit × MemSt nD τ sig (Elt F) → Prop := fun r => ∀ c : Dev nD,
  r.2.mem ((SparseCore.T c).loc main_v17) = wrRes c (Res c)
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_arg4) = m ((SparseCore.T c).loc main_arg4)
    ∧ r.2.mem ((SparseCore.T c).loc main_arg5) = m ((SparseCore.T c).loc main_arg5)
    ∧ r.2.mem ((SparseCore.T c).loc main_arg6) = m ((SparseCore.T c).loc main_arg6)
    ∧ r.2.mem ((SparseCore.T c).loc main_arg7) = m ((SparseCore.T c).loc main_arg7)
    ∧ r.2.mem ((SparseCore.T c).loc main_arg8) = m ((SparseCore.T c).loc main_arg8)
    ∧ r.2.mem ((SparseCore.T c).loc main_arg9) = m ((SparseCore.T c).loc main_arg9)
    ∧ r.2.mem ((SparseCore.T c).loc main_arg10) = m ((SparseCore.T c).loc main_arg10)
    ∧ r.2.mem ((SparseCore.T c).loc main_arg11) = m ((SparseCore.T c).loc main_arg11)
    ∧ r.2.mem ((SparseCore.T c).loc main_arg12) = m ((SparseCore.T c).loc main_arg12)
    ∧ r.2.mem ((SparseCore.T c).loc main_arg13) = m ((SparseCore.T c).loc main_arg13)

theorem hQ : ∀ s' : Phys nD τ sig (Elt F), (∀ d, fq m Res d s') → QC m Res (⟨⟩, s'.mem) := fun s' h c =>
  ⟨(h c).2, (h c).1 main_arg0 (by decide),
    (h c).1 main_arg1 (by decide),
    (h c).1 main_arg2 (by decide),
    (h c).1 main_arg3 (by decide),
    (h c).1 main_arg4 (by decide),
    (h c).1 main_arg5 (by decide),
    (h c).1 main_arg6 (by decide),
    (h c).1 main_arg7 (by decide),
    (h c).1 main_arg8 (by decide),
    (h c).1 main_arg9 (by decide),
    (h c).1 main_arg10 (by decide),
    (h c).1 main_arg11 (by decide),
    (h c).1 main_arg12 (by decide),
    (h c).1 main_arg13 (by decide)⟩

end Cert.Proof.KB

end
-- ==== Proof.GSumK.lean ====
/-
  The neighbour-sum array as ONE function of the table and the index table.

  Output row n = 320·w + r belongs to worker w = n / 320 and is its r = n % 320-th row; its lane j is the tree sum
  over k < 32 of the table rows named by entries 32·r + k of the worker's index row, at lane j.  Stating the array
  as a function of n makes "every worker's rows are its tree sums" the same as "the output is this array".
-/
import proofs.«205366_g3083786518796_cont_9to1_852_38_alg».proof.Proof.ScPayK

noncomputable section

namespace Cert.Proof.KB

open Cert.Kernel
open Idealize.ShloMosaic

variable {F : FTy → Type} [FloatOps F]

/-- The padded output as a function of the table and the index table. -/
def gsumF (Tc : S10000x128.Idx → F .f32) (I : S32x10496.Idx → BitVec 32) : S10240x128.Idx → F .f32 := fun i =>
  tree32 fun k : Fin 32 =>
    Tc (ValueIdx.ix2
      ⟨(I (ValueIdx.ix2 ⟨(i 0).val / 320, by have := ValueIdx.idx2_lt0 i; omega⟩
          ⟨32 * ((i 0).val % 320) + k.val, by omega⟩)).toNat % 10000, Nat.mod_lt _ (by decide)⟩ (i 1))

/-- Every worker's rows of that array are its tree sums. -/
theorem gsumF_rel (Tc : S10000x128.Idx → F .f32) (I : S32x10496.Idx → BitVec 32) (w : Fin 32) :
    SumRel w Tc I (gsumF Tc I) := by
  intro r j
  have e1 : (320 * w.val + r.val) / 320 = w.val := by omega
  have e2 : (320 * w.val + r.val) % 320 = r.val := by omega
  show (tree32 fun k : Fin 32 =>
    Tc (ValueIdx.ix2
      ⟨(I (ValueIdx.ix2 ⟨(320 * w.val + r.val) / 320, by omega⟩
          ⟨32 * ((320 * w.val + r.val) % 320) + k.val, by omega⟩)).toNat % 10000, Nat.mod_lt _ (by decide)⟩ j)) = _
  simp only [e1, e2, Fin.eta]

/-- An output whose every worker's rows are its tree sums is that array. -/
theorem eq_gsumF (Tc : S10000x128.Idx → F .f32) (I : S32x10496.Idx → BitVec 32) (O : S10240x128.Idx → F .f32)
    (h : ∀ w : Fin 32, SumRel w Tc I O) : O = gsumF Tc I := by
  funext i
  have hi := ValueIdx.idx2_lt0 i
  have hw : (i 0).val / 320 < 32 := by omega
  have hr : (i 0).val % 320 < 320 := Nat.mod_lt _ (by decide)
  have hh := h ⟨(i 0).val / 320, hw⟩ ⟨(i 0).val % 320, hr⟩ (i 1)
  have e : (⟨320 * ((i 0).val / 320) + (i 0).val % 320, by omega⟩ : Fin 10240) = i 0 := Fin.ext (Nat.div_add_mod _ 320)
  have hO : O i = O (ValueIdx.ix2 ⟨320 * ((i 0).val / 320) + (i 0).val % 320, by omega⟩ (i 1)) := by
    rw [e]; exact congrArg O (ValueIdx.eq_ix2 i)
  exact hO.trans (hh.trans rfl)

end Cert.Proof.KB

end
-- ==== Proof.TcZBodyK.lean ====
import proofs.«205366_g3083786518796_cont_9to1_852_38_alg».proof.Proof.Gen.Kernel.Launch
import proofs.«205366_g3083786518796_cont_9to1_852_38_alg».proof.Proof.Gen.Kernel.Skeleton
import proofs.«205366_g3083786518796_cont_9to1_852_38_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# The first TensorCore region: z = x · (Wg + Ws)ᵀ, block by block

The grid has five points; point `t` reads rows `2000 t … 2000 t + 1999` of `x`, the two whole weight matrices,
and writes the same rows of the result.  Everything is stated at a parameter `V`: the TensorCore's buffer
contents when the region is entered.
-/

section Region0

variable (V : (c : Dev nD) → (b : Ref sig .tc) → Buf (Elt F) ((c : Thread nD τ).loc b))

/-- Window `w`'s block at point `t`, read off its array as the region finds it. -/
def iblk0 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: a window that
    is not fetched at a point has not moved (the two weight windows are fetched once, at the first point). -/
theorem before0_0_of {c : Dev nD} (dat : Dat τ (Elt F) Ix Name U Lvl cfg1 c) (hA : dat.A 0 = V c (Pipeline.arrRef spec1 0))
    (hafter : ∀ t, dat.after 0 t = iblk0 V c 0 t) (t : Fin cfg1.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Ix Name U Lvl cfg1 c) (hA : dat.A 1 = V c (Pipeline.arrRef spec1 1))
    (hafter : ∀ t, dat.after 1 t = iblk0 V c 1 t) (t : Fin cfg1.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Ix Name U Lvl cfg1 c) (hA : dat.A 2 = V c (Pipeline.arrRef spec1 2))
    (hafter : ∀ t, dat.after 2 t = iblk0 V c 2 t) (t : Fin cfg1.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 2000×128 staging block, and the whole 128×128 weight block, as rectangles. -/
abbrev rB : Rect S2000x128 := Rect.unit (s := S2000x128) ![0, 0] S2000x128.size inb_S2000x128_S2000x128_0_0
abbrev rW : Rect S128x128 := Rect.unit (s := S128x128) ![0, 0] S128x128.size inb_S128x128_S128x128_0_0

/-- What the body leaves in the output block: one store of the matmul payload of the three loaded blocks. -/
def out0 (x : Vec F S2000x128 .f32) (wg ws : Vec F S128x128 .f32) : Vec F S2000x128 .f32 :=
  View.canon [⟨rB, k1_pay1 (View.ld wg rW) (View.ld ws rW) (View.ld x rB)⟩]

/-- The one store covers the block. -/
theorem cover0 (p0 : Vec F S2000x128 .f32) (y : S2000x128.Idx) :
    ∃ pc ∈ ([⟨rB, p0⟩] : List (View.Piece (Elt F) S2000x128 .f32)), y ∈ pc.1.set :=
  View.cover_of_tiled [⟨rB, p0⟩] S2000x128.size (by rfl) y

set_option maxHeartbeats 400000 in
/-- The body on whole staging memrefs: the three inputs are read and left as they were, the output block ends at
    `out0` of them. -/
theorem sound_kernel0 (𝒱₀ : Variants) (c : Dev nD) (E : Set Name) (i : grid1.Coords)
    (arg1 : Memref sig .tc .vmem S2000x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .vmem S2000x128 .f32) (harg4 : arg4.IsWhole)
    (x : Vec F S2000x128 .f32) (wg ws : Vec F S128x128 .f32) (K : PUnit → sProp 𝕄) :
    iprop(owns (c : Thread nD τ) arg1 fullShare x ∗ owns (c : Thread nD τ) arg2 fullShare wg ∗ owns (c : Thread nD τ) arg3 fullShare ws
        ∗ (∃ d, owns (c : Thread nD τ) arg4 fullShare d)
        ∗ (iprop(owns (c : Thread nD τ) arg1 fullShare x ∗ owns (c : Thread nD τ) arg2 fullShare wg ∗ owns (c : Thread nD τ) arg3 fullShare ws
            ∗ owns (c : Thread nD τ) arg4 fullShare (out0 x wg ws)) -∗ K ⟨⟩))
      ⊢ wp frame (wpE (defs₀ (F := F)) 𝒱₀ c none) E (cc1__tc_z_body i arg1 harg1 arg2 harg2 arg3 harg3 arg4 harg4) K := by
  simp only [cc1__tc_z_body_eq_skeleton]; unfold cc1__tc_z_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

variable (Name U Lvl) in
/-- The proof data of the first region on core `c`: the arrays as the region finds them; after the body at point
    `t` each input's buffer at its block and the output's at `out0` of the three input blocks; the invariant is the
    scoped buffers no window stages, untouched; the core owes the same tallies `O.1` throughout, its recorded waits (the pipeline's own apart) within `O.2`; full shares. -/
def dat0 (O : CellTallies nD τ sig Ix × Set (SemLoc sig × Ix)) (c : Dev nD) : Dat τ (Elt F) Ix Name U Lvl cfg1 c where
  A w := V c (Pipeline.arrRef spec1 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.scopedRest spec1 c
  q _ := fullShare
  owed _ := O.1
  recorded _ := O.2

theorem A_eq0 (O : CellTallies nD τ sig Ix × Set (SemLoc sig × Ix)) (c : Dev nD) (w : Fin cfg1.W) :
    (dat0 Name U Lvl V O c).A w = V c (Pipeline.arrRef spec1 w) := by
  dsimp only [dat0]

theorem after0_0 (O : CellTallies nD τ sig Ix × Set (SemLoc sig × Ix)) (c : Dev nD) (t : Fin cfg1.N) :
    (dat0 Name U Lvl V O c).after 0 t = iblk0 V c 0 t := by dsimp only [dat0]
theorem after0_1 (O : CellTallies nD τ sig Ix × Set (SemLoc sig × Ix)) (c : Dev nD) (t : Fin cfg1.N) :
    (dat0 Name U Lvl V O c).after 1 t = iblk0 V c 1 t := by dsimp only [dat0]
theorem after0_2 (O : CellTallies nD τ sig Ix × Set (SemLoc sig × Ix)) (c : Dev nD) (t : Fin cfg1.N) :
    (dat0 Name U Lvl V O c).after 2 t = iblk0 V c 2 t := by dsimp only [dat0]
theorem after0_3 (O : CellTallies nD τ sig Ix × Set (SemLoc sig × Ix)) (c : Dev nD) (t : Fin cfg1.N) :
    (dat0 Name U Lvl V O c).after 3 t = out0 (iblk0 V c 0 t) (iblk0 V c 1 t) (iblk0 V c 2 t) := by dsimp only [dat0]

theorem before0_0 (O : CellTallies nD τ sig Ix × Set (SemLoc sig × Ix)) (c : Dev nD) (t : Fin cfg1.N) (d) :
    (dat0 Name U Lvl V O c).before 0 t d = iblk0 V c 0 t :=
  before0_0_of V _ (A_eq0 V O c 0) (after0_0 V O c) t d
theorem before0_1 (O : CellTallies nD τ sig Ix × Set (SemLoc sig × Ix)) (c : Dev nD) (t : Fin cfg1.N) (d) :
    (dat0 Name U Lvl V O c).before 1 t d = iblk0 V c 1 t :=
  before0_1_of V _ (A_eq0 V O c 1) (after0_1 V O c) t d
theorem before0_2 (O : CellTallies nD τ sig Ix × Set (SemLoc sig × Ix)) (c : Dev nD) (t : Fin cfg1.N) (d) :
    (dat0 Name U Lvl V O c).before 2 t d = iblk0 V c 2 t :=
  before0_2_of V _ (A_eq0 V O c 2) (after0_2 V O c) t d

/-- What the body is called with at point `t`, the windows one by one, -/
def bodyPre0 (O : CellTallies nD τ sig Ix × Set (SemLoc sig × Ix)) (ι : Ix) (c : Dev nD) (t : Fin cfg1.N) : sProp 𝕄 :=
  iprop((dat0 Name U Lvl V O c).Φ t.castSucc ∗ (dat0 Name U Lvl V O c).owesAt ι t.castSucc
    ∗ (∃ d, owns (c : Thread nD τ) (st1_0 t) fullShare ((dat0 Name U Lvl V O c).before 0 t d))
    ∗ (∃ d, owns (c : Thread nD τ) (st1_1 t) fullShare ((dat0 Name U Lvl V O c).before 1 t d))
    ∗ (∃ d, owns (c : Thread nD τ) (st1_2 t) fullShare ((dat0 Name U Lvl V O c).before 2 t d))
    ∗ (∃ d, owns (c : Thread nD τ) (st1_3 t) fullShare ((dat0 Name U Lvl V O c).before 3 t d)))

/-- and what it returns. -/
def bodyPost0 (O : CellTallies nD τ sig Ix × Set (SemLoc sig × Ix)) (ι : Ix) (c : Dev nD) (t : Fin cfg1.N) : sProp 𝕄 :=
  iprop((dat0 Name U Lvl V O c).Φ t.succ ∗ (dat0 Name U Lvl V O c).owesAt ι t.succ
    ∗ owns (c : Thread nD τ) (st1_0 t) fullShare ((dat0 Name U Lvl V O c).after 0 t)
    ∗ owns (c : Thread nD τ) (st1_1 t) fullShare ((dat0 Name U Lvl V O c).after 1 t)
    ∗ owns (c : Thread nD τ) (st1_2 t) fullShare ((dat0 Name U Lvl V O c).after 2 t)
    ∗ owns (c : Thread nD τ) (st1_3 t) fullShare ((dat0 Name U Lvl V O c).after 3 t))

/-- The body at any point: the inputs' buffers hold their blocks, so `sound_kernel0` applies; the invariant and the
    core's debts pass through unread. -/
theorem sound_body0 (𝒱₀ : Variants) (O : CellTallies nD τ sig Ix × Set (SemLoc sig × Ix)) (ι : Ix) (c : Dev nD) (t : Fin cfg1.N) :
    bodyPre0 (Name := Name) (U := U) (Lvl := Lvl) V O ι c t
      ⊢ wp frame (wpE (defs₀ (F := F)) 𝒱₀ c none) Set.univ (bodyAt1 t) (fun _ => bodyPost0 V O ι c t) := by
  unfold bodyPre0 bodyPost0 bodyAt1
  simp only [before0_0, before0_1, before0_2]
  rw [show (dat0 Name U Lvl V O c).Φ t.succ = (dat0 Name U Lvl V O c).Φ t.castSucc from rfl,
    show (dat0 Name U Lvl V O c).owesAt ι t.succ = (dat0 Name U Lvl V O c).owesAt ι t.castSucc from rfl,
    after0_0, after0_1, after0_2, after0_3]
  iintro ⟨HΦ, Ho, ⟨%d0, H0⟩, ⟨%d1, H1⟩, ⟨%d2, H2⟩, ⟨%d3, H3⟩⟩
  iapply (sound_kernel0 𝒱₀ c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (𝒱₀ : Variants) (O : CellTallies nD τ sig Ix × Set (SemLoc sig × Ix)) (ι : Ix) (c : Dev nD) :
    BodyObligation (dat0 Name U Lvl V O c) (defs₀ (F := F)) 𝒱₀ ι Set.univ := fun t => by
  rw [bigSep_W1, bigSep_W1]
  exact sound_body0 V 𝒱₀ O ι c t

end Region0

end Cert.Kernel.Regions

end
-- ==== Proof.TcZValueK.lean ====
import proofs.«205366_g3083786518796_cont_9to1_852_38_alg».proof.Proof.Gen.Kernel.Launch
import proofs.«205366_g3083786518796_cont_9to1_852_38_alg».proof.Proof.Gen.Kernel.Skeleton
import proofs.«205366_g3083786518796_cont_9to1_852_38_alg».proof.Proof.Gen.Kernel.Points
import proofs.«205366_g3083786518796_cont_9to1_852_38_alg».proof.Proof.TcZBodyK
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# The first region's result as one function of its arguments

`Z0 x wg ws` is, at row `n`, the matmul payload of rows `2000 ⌊n / 2000⌋ …` of `x` and of the two weight matrices,
read at row `n mod 2000`: the five write-backs piece it together.
-/

theorem hz2 : (![0, 0] : Fin 2 → Nat) = fun _ => 0 := funext fun a => by fin_cases a <;> rfl

/-- Rows `2000 b … 2000 b + 1999` of a 10000-row array, as a block. -/
def rowsOf {α : Type} (x : S10000x128.Idx → α) (b : Fin 5) : S2000x128.Idx → α :=
  fun y => x (ix2 ⟨b.val * 2000 + (y 0).val, by have := idx2_lt0 y; have := b.isLt; omega⟩ (y 1))

/-- The first region's result, whole. -/
def Z0 (x : Vec F S10000x128 .f32) (wg ws : Vec F S128x128 .f32) : Vec F S10000x128 .f32 := fun i =>
  k1_pay1 wg ws (rowsOf x ⟨(i 0).val / 2000, by have := idx2_lt0 i; omega⟩) (ix2 ⟨(i 0).val % 2000, Nat.mod_lt _ (by decide)⟩ (i 1))

/-- At row `2000 b + r` it is the payload of block `b` at row `r`. -/
theorem Z0_at (x : Vec F S10000x128 .f32) (wg ws : Vec F S128x128 .f32) (b : Fin 5) (j : S2000x128.Idx)
    (h : b.val * 2000 + (j 0).val < 10000) :
    Z0 x wg ws (ix2 ⟨b.val * 2000 + (j 0).val, h⟩ (j 1)) = k1_pay1 wg ws (rowsOf x b) j := by
  unfold Z0
  have hj := idx2_lt0 j
  have hB : (⟨(b.val * 2000 + (j 0).val) / 2000, by omega⟩ : Fin 5) = b := Fin.ext (by show (b.val * 2000 + (j 0).val) / 2000 = b.val; omega)
  have hJ : (ix2 (⟨(b.val * 2000 + (j 0).val) % 2000, Nat.mod_lt _ (by decide)⟩ : Fin 2000) (j 1) : S2000x128.Idx) = j := by
    funext a; match a with
    | ⟨0, _⟩ => exact Fin.ext (by show (b.val * 2000 + (j 0).val) % 2000 = (j 0).val; omega)
    | ⟨1, _⟩ => rfl
  exact congrArg₂ (fun B J => k1_pay1 wg ws (rowsOf x B) J) hB hJ

/-- The grid point as a block number. -/
def pt1 (t : Fin cfg1.N) : Fin 5 := ⟨t.val, lt_of_lt_of_eq t.isLt N_1⟩

/-- The printed index maps over the grid: `x`'s and the result's block is the point's, the weights' is the whole. -/
theorem idx_facts0 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Value0

variable (V : (c : Dev nD) → (b : Ref sig .tc) → Buf (Elt F) ((c : Thread nD τ).loc b))

/-- `x`'s block at point `t` is its rows `2000 t …`; each weight matrix's block is the matrix. -/
theorem iblk0_0 (c : Dev nD) (t : Fin cfg1.N) : iblk0 V c 0 t = rowsOf (V c main_arg0) (pt1 t) := by
  funext y
  obtain ⟨e0, e1, -⟩ := idx_facts0 t
  have hy0 := idx2_lt0 y
  show V c main_arg0 (((cfg1.win 0).blk t).view.emb y) = V c main_arg0 (ix2 ⟨(pt1 t).val * 2000 + (y 0).val, _⟩ (y 1))
  refine congrArg (V c main_arg0) ?_
  funext a; apply Fin.ext
  match a with
  | ⟨0, _⟩ => show win1_0.index t (0 : Fin 2) * 2000 + 1 * (y 0).val = t.val * 2000 + (y 0).val; rw [e0]; omega
  | ⟨1, _⟩ => show win1_0.index t (1 : Fin 2) * 128 + 1 * (y 1).val = (y 1).val; rw [e1]; omega
theorem iblk0_1 (c : Dev nD) (t : Fin cfg1.N) : iblk0 V c 1 t = V c main_arg2 := by
  funext y
  obtain ⟨-, -, e0, e1, -⟩ := idx_facts0 t
  show V c main_arg2 (((cfg1.win 1).blk t).view.emb y) = V c main_arg2 y
  refine congrArg (V c main_arg2) ?_
  funext a; apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega
theorem iblk0_2 (c : Dev nD) (t : Fin cfg1.N) : iblk0 V c 2 t = V c main_arg4 := by
  funext y
  obtain ⟨-, -, -, -, e0, e1, -⟩ := idx_facts0 t
  show V c main_arg4 (((cfg1.win 2).blk t).view.emb y) = V c main_arg4 y
  refine congrArg (V c main_arg4) ?_
  funext a; apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- An element of the result's block at point `t` sits at row `2000 t + r`. -/
theorem emb0_3 (t : Fin cfg1.N) (j : S2000x128.Idx) (h : (pt1 t).val * 2000 + (j 0).val < 10000) :
    ((cfg1.win 3).blk t).view.emb j = ix2 ⟨(pt1 t).val * 2000 + (j 0).val, h⟩ (j 1) := by
  obtain ⟨-, -, -, -, -, -, e0, e1⟩ := idx_facts0 t
  funext a; apply Fin.ext
  match a with
  | ⟨0, _⟩ => show win1_3.index t (0 : Fin 2) * 2000 + 1 * (j 0).val = t.val * 2000 + (j 0).val; rw [e0]; omega
  | ⟨1, _⟩ => show win1_3.index t (1 : Fin 2) * 128 + 1 * (j 1).val = (j 1).val; rw [e1]; omega

/-- WHAT POINT `t` WRITES BACK is block `t` of `Z0` of the three arrays as the region finds them. -/
theorem flushed0_eq (O : CellTallies nD τ sig Ix × Set (SemLoc sig × Ix)) (c : Dev nD) (t : Fin cfg1.N) :
    (dat0 Name U Lvl V O c).flushed 3 t
      = ((cfg1.win 3).blk t).view.read (Elt F) (Z0 (V c main_arg0) (V c main_arg2) (V c main_arg4)) := by
  show (cfg1.win 3).cut (grid1.coords t) ((dat0 Name U Lvl V O c).after 3 t) = _
  rw [after0_3]
  unfold out0
  rw [View.canon_unit_zero hz2]
  simp only [View.ld_unit_zero (S := S2000x128) hz2, View.ld_unit_zero (S := S128x128) hz2]
  rw [iblk0_0, iblk0_1, iblk0_2]
  funext j
  have hj := idx2_lt0 j
  have ht : (pt1 t).val * 2000 + (j 0).val < 10000 := by have := (pt1 t).isLt; omega
  show k1_pay1 (V c main_arg2) (V c main_arg4) (rowsOf (V c main_arg0) (pt1 t)) j
    = Z0 (V c main_arg0) (V c main_arg2) (V c main_arg4) (((cfg1.win 3).blk t).view.emb j)
  rw [emb0_3 t j ht]
  exact (Z0_at _ _ _ (pt1 t) j ht).symm

/-- An index of the result is in point `t`'s block iff each coordinate is in the block's range on its axis. -/
theorem mem_blk0 (t : Fin cfg1.N) (i : S10000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v9).slice (win1_3.rect t)).set ↔ _
  rw [View.set_slice_whole, Rect.mem_set_unit]
  exact Iff.rfl

/-- Every row is in the block of the point `⌊row / 2000⌋`. -/
theorem cover0_arr (i : S10000x128.Idx) :
    ∃ t : Fin cfg1.N, (cfg1.win 3).flush t = true ∧ i ∈ ((cfg1.win 3).blk t).view.set := by
  have hi0 := idx2_lt0 i
  have hi1 := idx2_lt1 i
  let t : Fin cfg1.N := ⟨(i 0).val / 2000, by rw [show cfg1.N = 5 from N_1]; omega⟩
  obtain ⟨-, -, -, -, -, -, e0, e1⟩ := idx_facts0 t
  refine ⟨t, flush1_3 t, ?_⟩
  rw [mem_blk0]
  intro a
  match a with
  | ⟨0, _⟩ => show win1_3.index t (0 : Fin 2) * 2000 ≤ (i 0).val ∧ (i 0).val < win1_3.index t (0 : Fin 2) * 2000 + 2000; rw [e0]; show (i 0).val / 2000 * 2000 ≤ (i 0).val ∧ (i 0).val < (i 0).val / 2000 * 2000 + 2000; omega
  | ⟨1, _⟩ => show win1_3.index t (1 : Fin 2) * 128 ≤ (i 1).val ∧ (i 1).val < win1_3.index t (1 : Fin 2) * 128 + 128; rw [e1]; omega

/-- THE RESULT ARRAY after the region: `Z0` of the three input arrays as the region finds them. -/
theorem final0 (O : CellTallies nD τ sig Ix × Set (SemLoc sig × Ix)) (c : Dev nD) :
    (dat0 Name U Lvl V O c).arrAt 3 cfg1.N = Z0 (V c main_arg0) (V c main_arg2) (V c main_arg4) :=
  (dat0 Name U Lvl V O c).arrAt_eq_of_cover 3 _ (fun t _ => flushed0_eq V O c t) cover0_arr

/-- The input arrays are as the region found them. -/
theorem kept0 (O : CellTallies nD τ sig Ix × Set (SemLoc sig × Ix)) (c : Dev nD) (w : Fin cfg1.W) (hw : (cfg1.win w).isOut = false) (n : Nat) :
    (dat0 Name U Lvl V O c).arrAt w n = V c (Pipeline.arrRef spec1 w) :=
  ((dat0 Name U Lvl V O c).arrAt_in w hw n).trans (A_eq0 V O c w)

end Value0

end Cert.Kernel.Regions

end
-- ==== Proof.TcFused1BodyK.lean ====
import proofs.«205366_g3083786518796_cont_9to1_852_38_alg».proof.Proof.Gen.Kernel.Launch
import proofs.«205366_g3083786518796_cont_9to1_852_38_alg».proof.Proof.Gen.Kernel.Skeleton
import proofs.«205366_g3083786518796_cont_9to1_852_38_alg».proof.Proof.Gen.Kernel.Points
import proofs.«205366_g3083786518796_cont_9to1_852_38_alg».proof.Proof.TcZBodyK
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# The fused TensorCore region 1: a = z + g · (Wl / 32)ᵀ + b,  h = a if a > 0 else exp a − 1,  zn = h · (Wg' + Ws')ᵀ

Point `t` of the five reads rows `2000 t … 2000 t + 1999` of `z` and of the gathered sums `g` (an array of 10240
rows, of which the five blocks use the first 10000: no block reaches past its end), the whole weight matrices and
the bias row, and writes the same rows of `h` and of `zn`.  Stated at a parameter `V`: the TensorCore's buffer
contents when the region is entered.
-/

section Region1

variable (V : (c : Dev nD) → (b : Ref sig .tc) → Buf (Elt F) ((c : Thread nD τ).loc b))

/-- Window `w`'s block at point `t`, read off its array as the region finds it. -/
def iblk1 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- No block of the gathered sums' window is cut: all five lie inside the 10240 rows. -/
theorem clip_none1 : ∀ (t : Fin cfg2.N) (a : Fin 2), (cfg2.win 1).clip (cfg2.grid.coords t) a = none :=
  (by decide +kernel : ∀ (t : Fin grid2.N) (a : Fin 2), win2_1.clip (grid2.coords t) a = none)

/-- The gathered sums' block at point `t` as a full staging block (the filler is never seen: nothing is cut). -/
def gfill1 (c : Dev nD) (t : Fin cfg2.N) : S2000x128.Idx → Elt F .f32 :=
  win2_1.fill (grid2.coords t) (fun _ => Scalar.ofBits .f32 0#32) (iblk1 V c 1 t)

theorem gfill1_refill (c : Dev nD) (t : Fin cfg2.N) :
    win2_1.fill (grid2.coords t) (fun _ => Scalar.ofBits .f32 0#32) (win2_1.cut (grid2.coords t) (gfill1 V c t)) = gfill1 V c t := by
  unfold gfill1; rw [Window.cut_fill]

/-- An uncut input window's current staging buffer holds its block at every point, fetched there or not. -/
theorem before1_0_of {c : Dev nD} (dat : Dat τ (Elt F) Ix Name U Lvl cfg2 c) (hA : dat.A 0 = V c (Pipeline.arrRef spec2 0))
    (hafter : ∀ t, dat.after 0 t = iblk1 V c 0 t) (t : Fin cfg2.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Ix Name U Lvl cfg2 c) (hA : dat.A 2 = V c (Pipeline.arrRef spec2 2))
    (hafter : ∀ t, dat.after 2 t = iblk1 V c 2 t) (t : Fin cfg2.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Ix Name U Lvl cfg2 c) (hA : dat.A 3 = V c (Pipeline.arrRef spec2 3))
    (hafter : ∀ t, dat.after 3 t = iblk1 V c 3 t) (t : Fin cfg2.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Ix Name U Lvl cfg2 c) (hA : dat.A 4 = V c (Pipeline.arrRef spec2 4))
    (hafter : ∀ t, dat.after 4 t = iblk1 V c 4 t) (t : Fin cfg2.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Ix Name U Lvl cfg2 c) (hA : dat.A 5 = V c (Pipeline.arrRef spec2 5))
    (hafter : ∀ t, dat.after 5 t = iblk1 V c 5 t) (t : Fin cfg2.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The bias row as a rectangle. -/
abbrev rb1 : Rect S1x128 := Rect.unit (s := S1x128) ![0, 0] S1x128.size inb_S1x128_S1x128_0_0

/-- What the body leaves in `h`'s block and in `zn`'s: one store each, of the two payloads of the loaded blocks. -/
def outH1 (z g : Vec F S2000x128 .f32) (wl : Vec F S128x128 .f32) (b : Vec F S1x128 .f32) : Vec F S2000x128 .f32 :=
  View.canon [⟨rB, k2_pay1 (View.ld z rB) (View.ld g rB) (View.ld wl rW) (View.ld b rb1)⟩]
def outZ1 (z g : Vec F S2000x128 .f32) (wl : Vec F S128x128 .f32) (b : Vec F S1x128 .f32) (wg ws : Vec F S128x128 .f32) : Vec F S2000x128 .f32 :=
  View.canon [⟨rB, k2_pay2 (View.ld z rB) (View.ld g rB) (View.ld wl rW) (View.ld b rb1) (View.ld wg rW) (View.ld ws rW)⟩]

set_option maxHeartbeats 400000 in
/-- The body on whole staging memrefs: the six inputs are read and left as they were, the two output blocks end at
    `outH1` and `outZ1` of them. -/
theorem sound_kernel1 (𝒱₀ : Variants) (c : Dev nD) (E : Set Name) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S2000x128 .f32) (harg7 : arg7.IsWhole) (arg8 : Memref sig .tc .vmem S2000x128 .f32) (harg8 : arg8.IsWhole)
    (z g : Vec F S2000x128 .f32) (wl : Vec F S128x128 .f32) (b : Vec F S1x128 .f32) (wg ws : Vec F S128x128 .f32) (K : PUnit → sProp 𝕄) :
    iprop(owns (c : Thread nD τ) arg1 fullShare z ∗ owns (c : Thread nD τ) arg2 fullShare g ∗ owns (c : Thread nD τ) arg3 fullShare wl
        ∗ owns (c : Thread nD τ) arg4 fullShare b ∗ owns (c : Thread nD τ) arg5 fullShare wg ∗ owns (c : Thread nD τ) arg6 fullShare ws
        ∗ (∃ d, owns (c : Thread nD τ) arg7 fullShare d) ∗ (∃ d, owns (c : Thread nD τ) arg8 fullShare d)
        ∗ (iprop(owns (c : Thread nD τ) arg1 fullShare z ∗ owns (c : Thread nD τ) arg2 fullShare g ∗ owns (c : Thread nD τ) arg3 fullShare wl
            ∗ owns (c : Thread nD τ) arg4 fullShare b ∗ owns (c : Thread nD τ) arg5 fullShare wg ∗ owns (c : Thread nD τ) arg6 fullShare ws
            ∗ owns (c : Thread nD τ) arg7 fullShare (outH1 z g wl b) ∗ owns (c : Thread nD τ) arg8 fullShare (outZ1 z g wl b wg ws)) -∗ K ⟨⟩))
      ⊢ wp frame (wpE (defs₀ (F := F)) 𝒱₀ c none) E
          (cc2__tc_out_fused_body i arg1 harg1 arg2 harg2 arg3 harg3 arg4 harg4 arg5 harg5 arg6 harg6 arg7 harg7 arg8 harg8) K := by
  simp only [cc2__tc_out_fused_body_eq_skeleton]; unfold cc2__tc_out_fused_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

variable (Name U Lvl) in
/-- The proof data of this region on core `c`: the arrays as the region finds them; after the body at point `t`
    each input's buffer at its block (the gathered sums' as a full block) and the two outputs' at the payloads of
    the six input blocks; the invariant is the scoped buffers no window stages, untouched; the core owes the same
    tallies `O.1` throughout, its recorded waits (the pipeline's own apart) within `O.2`; full shares. -/
def dat1 (O : CellTallies nD τ sig Ix × Set (SemLoc sig × Ix)) (c : Dev nD) : Dat τ (Elt F) Ix Name U Lvl cfg2 c where
  A w := V c (Pipeline.arrRef spec2 w)
  after w t := match w with
    | ⟨0, _⟩ => iblk1 V c 0 t
    | ⟨1, _⟩ => gfill1 V c t
    | ⟨2, _⟩ => iblk1 V c 2 t
    | ⟨3, _⟩ => iblk1 V c 3 t
    | ⟨4, _⟩ => iblk1 V c 4 t
    | ⟨5, _⟩ => iblk1 V c 5 t
    | ⟨6, _⟩ => outH1 (iblk1 V c 0 t) (gfill1 V c t) (iblk1 V c 2 t) (iblk1 V c 3 t)
    | ⟨7, _⟩ => outZ1 (iblk1 V c 0 t) (gfill1 V c t) (iblk1 V c 2 t) (iblk1 V c 3 t) (iblk1 V c 4 t) (iblk1 V c 5 t)
  Φ _ := Pipeline.scopedRest spec2 c
  q _ := fullShare
  owed _ := O.1
  recorded _ := O.2

theorem A_eq1 (O : CellTallies nD τ sig Ix × Set (SemLoc sig × Ix)) (c : Dev nD) (w : Fin cfg2.W) :
    (dat1 Name U Lvl V O c).A w = V c (Pipeline.arrRef spec2 w) := by
  dsimp only [dat1]

theorem after1_0 (O : CellTallies nD τ sig Ix × Set (SemLoc sig × Ix)) (c : Dev nD) (t : Fin cfg2.N) :
    (dat1 Name U Lvl V O c).after 0 t = iblk1 V c 0 t := by dsimp only [dat1]
theorem after1_2 (O : CellTallies nD τ sig Ix × Set (SemLoc sig × Ix)) (c : Dev nD) (t : Fin cfg2.N) :
    (dat1 Name U Lvl V O c).after 2 t = iblk1 V c 2 t := by dsimp only [dat1]
theorem after1_3 (O : CellTallies nD τ sig Ix × Set (SemLoc sig × Ix)) (c : Dev nD) (t : Fin cfg2.N) :
    (dat1 Name U Lvl V O c).after 3 t = iblk1 V c 3 t := by dsimp only [dat1]
theorem after1_4 (O : CellTallies nD τ sig Ix × Set (SemLoc sig × Ix)) (c : Dev nD) (t : Fin cfg2.N) :
    (dat1 Name U Lvl V O c).after 4 t = iblk1 V c 4 t := by dsimp only [dat1]
theorem after1_5 (O : CellTallies nD τ sig Ix × Set (SemLoc sig × Ix)) (c : Dev nD) (t : Fin cfg2.N) :
    (dat1 Name U Lvl V O c).after 5 t = iblk1 V c 5 t := by dsimp only [dat1]
theorem after1_1 (O : CellTallies nD τ sig Ix × Set (SemLoc sig × Ix)) (c : Dev nD) (t : Fin cfg2.N) :
    (dat1 Name U Lvl V O c).after 1 t = gfill1 V c t := by dsimp only [dat1]
theorem after1_6 (O : CellTallies nD τ sig Ix × Set (SemLoc sig × Ix)) (c : Dev nD) (t : Fin cfg2.N) :
    (dat1 Name U Lvl V O c).after 6 t = outH1 (iblk1 V c 0 t) (gfill1 V c t) (iblk1 V c 2 t) (iblk1 V c 3 t) := by dsimp only [dat1]
theorem after1_7 (O : CellTallies nD τ sig Ix × Set (SemLoc sig × Ix)) (c : Dev nD) (t : Fin cfg2.N) :
    (dat1 Name U Lvl V O c).after 7 t = outZ1 (iblk1 V c 0 t) (gfill1 V c t) (iblk1 V c 2 t) (iblk1 V c 3 t) (iblk1 V c 4 t) (iblk1 V c 5 t) := by dsimp only [dat1]

theorem before1_0 (O : CellTallies nD τ sig Ix × Set (SemLoc sig × Ix)) (c : Dev nD) (t : Fin cfg2.N) (d) :
    (dat1 Name U Lvl V O c).before 0 t d = iblk1 V c 0 t :=
  before1_0_of V _ (A_eq1 V O c 0) (after1_0 V O c) t d
theorem before1_2 (O : CellTallies nD τ sig Ix × Set (SemLoc sig × Ix)) (c : Dev nD) (t : Fin cfg2.N) (d) :
    (dat1 Name U Lvl V O c).before 2 t d = iblk1 V c 2 t :=
  before1_2_of V _ (A_eq1 V O c 2) (after1_2 V O c) t d
theorem before1_3 (O : CellTallies nD τ sig Ix × Set (SemLoc sig × Ix)) (c : Dev nD) (t : Fin cfg2.N) (d) :
    (dat1 Name U Lvl V O c).before 3 t d = iblk1 V c 3 t :=
  before1_3_of V _ (A_eq1 V O c 3) (after1_3 V O c) t d
theorem before1_4 (O : CellTallies nD τ sig Ix × Set (SemLoc sig × Ix)) (c : Dev nD) (t : Fin cfg2.N) (d) :
    (dat1 Name U Lvl V O c).before 4 t d = iblk1 V c 4 t :=
  before1_4_of V _ (A_eq1 V O c 4) (after1_4 V O c) t d
theorem before1_5 (O : CellTallies nD τ sig Ix × Set (SemLoc sig × Ix)) (c : Dev nD) (t : Fin cfg2.N) (d) :
    (dat1 Name U Lvl V O c).before 5 t d = iblk1 V c 5 t :=
  before1_5_of V _ (A_eq1 V O c 5) (after1_5 V O c) t d
/-- The gathered sums' buffer, fetched at every point, holds the full block whatever it held before. -/
theorem before1_1 (O : CellTallies nD τ sig Ix × Set (SemLoc sig × Ix)) (c : Dev nD) (t : Fin cfg2.N) (d) :
    (dat1 Name U Lvl V O c).before 1 t d = gfill1 V c t := by
  unfold Dat.before; rw [if_pos (fetch2_1 t)]
  exact ((dat1 Name U Lvl V O c).fetched_of_clip_none 1 t (clip_none1 t) d (fun _ => Scalar.ofBits .f32 0#32)).trans
    (by unfold Dat.fetched Dat.blockOf gfill1 iblk1; rw [A_eq1]; try rfl)

/-- What the body is called with at point `t`, the windows one by one, -/
def bodyPre1 (O : CellTallies nD τ sig Ix × Set (SemLoc sig × Ix)) (ι : Ix) (c : Dev nD) (t : Fin cfg2.N) : sProp 𝕄 :=
  iprop((dat1 Name U Lvl V O c).Φ t.castSucc ∗ (dat1 Name U Lvl V O c).owesAt ι t.castSucc
    ∗ (∃ d, owns (c : Thread nD τ) (st2_0 t) fullShare ((dat1 Name U Lvl V O c).before 0 t d))
    ∗ (∃ d, owns (c : Thread nD τ) (st2_1 t) fullShare ((dat1 Name U Lvl V O c).before 1 t d))
    ∗ (∃ d, owns (c : Thread nD τ) (st2_2 t) fullShare ((dat1 Name U Lvl V O c).before 2 t d))
    ∗ (∃ d, owns (c : Thread nD τ) (st2_3 t) fullShare ((dat1 Name U Lvl V O c).before 3 t d))
    ∗ (∃ d, owns (c : Thread nD τ) (st2_4 t) fullShare ((dat1 Name U Lvl V O c).before 4 t d))
    ∗ (∃ d, owns (c : Thread nD τ) (st2_5 t) fullShare ((dat1 Name U Lvl V O c).before 5 t d))
    ∗ (∃ d, owns (c : Thread nD τ) (st2_6 t) fullShare ((dat1 Name U Lvl V O c).before 6 t d))
    ∗ (∃ d, owns (c : Thread nD τ) (st2_7 t) fullShare ((dat1 Name U Lvl V O c).before 7 t d)))

/-- and what it returns: every uncut window's buffer at what the body leaves; the gathered sums' on the part its
    transfers move (here all of it). -/
def bodyPost1 (O : CellTallies nD τ sig Ix × Set (SemLoc sig × Ix)) (ι : Ix) (c : Dev nD) (t : Fin cfg2.N) : sProp 𝕄 :=
  iprop((dat1 Name U Lvl V O c).Φ t.succ ∗ (dat1 Name U Lvl V O c).owesAt ι t.succ
    ∗ owns (c : Thread nD τ) (st2_0 t) fullShare ((dat1 Name U Lvl V O c).after 0 t)
    ∗ (∃ d, owns (c : Thread nD τ) (st2_1 t) fullShare ((cfg2.win 1).fill (cfg2.grid.coords t) d ((cfg2.win 1).cut (cfg2.grid.coords t) ((dat1 Name U Lvl V O c).after 1 t))))
    ∗ owns (c : Thread nD τ) (st2_2 t) fullShare ((dat1 Name U Lvl V O c).after 2 t)
    ∗ owns (c : Thread nD τ) (st2_3 t) fullShare ((dat1 Name U Lvl V O c).after 3 t)
    ∗ owns (c : Thread nD τ) (st2_4 t) fullShare ((dat1 Name U Lvl V O c).after 4 t)
    ∗ owns (c : Thread nD τ) (st2_5 t) fullShare ((dat1 Name U Lvl V O c).after 5 t)
    ∗ owns (c : Thread nD τ) (st2_6 t) fullShare ((dat1 Name U Lvl V O c).after 6 t)
    ∗ owns (c : Thread nD τ) (st2_7 t) fullShare ((dat1 Name U Lvl V O c).after 7 t))

/-- The body at any point: the inputs' buffers hold their blocks, so `sound_kernel1` applies; the invariant and the
    core's debts pass through unread. -/
theorem sound_body1 (𝒱₀ : Variants) (O : CellTallies nD τ sig Ix × Set (SemLoc sig × Ix)) (ι : Ix) (c : Dev nD) (t : Fin cfg2.N) :
    bodyPre1 (Name := Name) (U := U) (Lvl := Lvl) V O ι c t
      ⊢ wp frame (wpE (defs₀ (F := F)) 𝒱₀ c none) Set.univ (bodyAt2 t) (fun _ => bodyPost1 V O ι c t) := by
  unfold bodyPre1 bodyPost1 bodyAt2
  simp only [before1_0, before1_1, before1_2, before1_3, before1_4, before1_5]
  rw [show (dat1 Name U Lvl V O c).Φ t.succ = (dat1 Name U Lvl V O c).Φ t.castSucc from rfl,
    show (dat1 Name U Lvl V O c).owesAt ι t.succ = (dat1 Name U Lvl V O c).owesAt ι t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 𝒱₀ c Set.univ _ _ _ _ _ _ _ _ _ _ _ _ _ _ _ _ _
    (iblk1 V c 0 t) (gfill1 V c t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]
  · iexists (fun _ => Scalar.ofBits .f32 0#32)
    rw [show (cfg2.win 1).fill (cfg2.grid.coords t) (fun _ => Scalar.ofBits .f32 0#32) ((cfg2.win 1).cut (cfg2.grid.coords t) (gfill1 V c t)) = gfill1 V c t
      from gfill1_refill V c t]
    iexact H1
  isplitl [H2]; · iexact H2
  isplitl [H3]; · iexact H3
  isplitl [H4]; · iexact H4
  isplitl [H5]; · iexact H5
  isplitl [H6]; · iexact H6
  iexact H7

/-- The library's body obligation (in the form that states a cut window on the part its transfers move), at every point. -/
theorem body_obligation1 (𝒱₀ : Variants) (O : CellTallies nD τ sig Ix × Set (SemLoc sig × Ix)) (ι : Ix) (c : Dev nD) :
    Pipeline.BodyObligationLoose (dat1 Name U Lvl V O c) (defs₀ (F := F)) 𝒱₀ ι Set.univ := fun t => by
  rw [bigSep_W2, bigSep_W2]
  exact sound_body1 V 𝒱₀ O ι c t

end Region1

end Cert.Kernel.Regions

end
-- ==== Proof.TcBlocksK.lean ====
import proofs.«205366_g3083786518796_cont_9to1_852_38_alg».proof.Proof.Gen.Kernel.Launch
import proofs.«205366_g3083786518796_cont_9to1_852_38_alg».proof.Proof.Gen.Kernel.Skeleton
import proofs.«205366_g3083786518796_cont_9to1_852_38_alg».proof.Proof.Gen.Kernel.Points
import proofs.«205366_g3083786518796_cont_9to1_852_38_alg».proof.Proof.TcZValueK
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# A 10000-row array given in five blocks of 2000 rows
-/

/-- Rows `2000 b … 2000 b + 1999` of a 10240-row array, as a block (the five blocks use the first 10000 rows). -/
def rowsOfG {α : Type} (g : S10240x128.Idx → α) (b : Fin 5) : S2000x128.Idx → α :=
  fun y => g (ix2 ⟨b.val * 2000 + (y 0).val, by have := idx2_lt0 y; have := b.isLt; omega⟩ (y 1))

/-- The 10000-row array whose rows `2000 b …` are the block `P b`. -/
def blockwise {β : Type} (P : Fin 5 → S2000x128.Idx → β) : S10000x128.Idx → β := fun i =>
  P ⟨(i 0).val / 2000, by have := idx2_lt0 i; omega⟩ (ix2 ⟨(i 0).val % 2000, Nat.mod_lt _ (by decide)⟩ (i 1))

/-- At row `2000 b + r` it is block `b` at row `r`. -/
theorem blockwise_at {β : Type} (P : Fin 5 → S2000x128.Idx → β) (b : Fin 5) (j : S2000x128.Idx)
    (h : b.val * 2000 + (j 0).val < 10000) :
    blockwise P (ix2 ⟨b.val * 2000 + (j 0).val, h⟩ (j 1)) = P b j := by
  unfold blockwise
  have hj := idx2_lt0 j
  have hB : (⟨(b.val * 2000 + (j 0).val) / 2000, by omega⟩ : Fin 5) = b := Fin.ext (by show (b.val * 2000 + (j 0).val) / 2000 = b.val; omega)
  have hJ : (ix2 (⟨(b.val * 2000 + (j 0).val) % 2000, Nat.mod_lt _ (by decide)⟩ : Fin 2000) (j 1) : S2000x128.Idx) = j := by
    funext a; match a with
    | ⟨0, _⟩ => exact Fin.ext (by show (b.val * 2000 + (j 0).val) % 2000 = (j 0).val; omega)
    | ⟨1, _⟩ => rfl
  exact congrArg₂ (fun B J => P B J) hB hJ

/-- At any row `n`: block `⌊n / 2000⌋` at row `n mod 2000`. -/
theorem blockwise_apply {β : Type} (P : Fin 5 → S2000x128.Idx → β) (n : Fin 10000) (o : Fin 128) :
    blockwise P (ix2 n o) = P ⟨n.val / 2000, by omega⟩ (ix2 ⟨n.val % 2000, Nat.mod_lt _ (by decide)⟩ o) := rfl

end Cert.Kernel.Regions

end
-- ==== Proof.TcFused1ValueK.lean ====
import proofs.«205366_g3083786518796_cont_9to1_852_38_alg».proof.Proof.Gen.Kernel.Launch
import proofs.«205366_g3083786518796_cont_9to1_852_38_alg».proof.Proof.Gen.Kernel.Skeleton
import proofs.«205366_g3083786518796_cont_9to1_852_38_alg».proof.Proof.Gen.Kernel.Points
import proofs.«205366_g3083786518796_cont_9to1_852_38_alg».proof.Proof.TcFused1BodyK
import proofs.«205366_g3083786518796_cont_9to1_852_38_alg».proof.Proof.TcBlocksK
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# Region 1's results as whole-array functions of its arguments

Row `n` of each result is the body's payload of rows `2000 ⌊n / 2000⌋ …` of `z` and of the gathered sums and of the
whole weights and bias, read at row `n mod 2000`: the five write-backs piece each result together.
-/

/-- The activation, whole. -/
def H1 (z : Vec F S10000x128 .f32) (g : Vec F S10240x128 .f32) (wl : Vec F S128x128 .f32) (b : Vec F S1x128 .f32) : Vec F S10000x128 .f32 :=
  blockwise fun B => k2_pay1 (rowsOf z B) (rowsOfG g B) wl b
/-- The next layer's first product, whole. -/
def ZN1 (z : Vec F S10000x128 .f32) (g : Vec F S10240x128 .f32) (wl : Vec F S128x128 .f32) (b : Vec F S1x128 .f32) (wg ws : Vec F S128x128 .f32) : Vec F S10000x128 .f32 :=
  blockwise fun B => k2_pay2 (rowsOf z B) (rowsOfG g B) wl b wg ws

/-- The grid point as a block number. -/
def bpt1 (t : Fin cfg2.N) : Fin 5 := ⟨t.val, lt_of_lt_of_eq t.isLt N_2⟩

/-- The printed index maps over the grid: the row-blocked windows' block is the point's, the others' is the whole. -/
theorem idx_facts1 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

section Value1

variable (V : (c : Dev nD) → (b : Ref sig .tc) → Buf (Elt F) ((c : Thread nD τ).loc b))

theorem iblk1_0 (c : Dev nD) (t : Fin cfg2.N) : iblk1 V c 0 t = rowsOf (V c main_v9) (bpt1 t) := by
  funext y
  obtain ⟨e0, e1, -⟩ := idx_facts1 t
  have hy0 := idx2_lt0 y
  show V c main_v9 (((cfg2.win 0).blk t).view.emb y) = V c main_v9 (ix2 ⟨(bpt1 t).val * 2000 + (y 0).val, _⟩ (y 1))
  refine congrArg (V c main_v9) ?_
  funext a; apply Fin.ext
  match a with
  | ⟨0, _⟩ => show win2_0.index t (0 : Fin 2) * 2000 + 1 * (y 0).val = t.val * 2000 + (y 0).val; rw [e0]; omega
  | ⟨1, _⟩ => show win2_0.index t (1 : Fin 2) * 128 + 1 * (y 1).val = (y 1).val; rw [e1]; omega
theorem iblk1_2 (c : Dev nD) (t : Fin cfg2.N) : iblk1 V c 2 t = V c main_arg3 := by
  funext y
  obtain ⟨-, -, -, -, e0, e1, -⟩ := idx_facts1 t
  show V c main_arg3 (((cfg2.win 2).blk t).view.emb y) = V c main_arg3 y
  refine congrArg (V c main_arg3) ?_
  funext a; apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega
theorem iblk1_4 (c : Dev nD) (t : Fin cfg2.N) : iblk1 V c 4 t = V c main_arg6 := by
  funext y
  obtain ⟨-, -, -, -, -, -, -, -, e0, e1, -⟩ := idx_facts1 t
  show V c main_arg6 (((cfg2.win 4).blk t).view.emb y) = V c main_arg6 y
  refine congrArg (V c main_arg6) ?_
  funext a; apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega
theorem iblk1_5 (c : Dev nD) (t : Fin cfg2.N) : iblk1 V c 5 t = V c main_arg8 := by
  funext y
  obtain ⟨-, -, -, -, -, -, -, -, -, -, e0, e1, -⟩ := idx_facts1 t
  show V c main_arg8 (((cfg2.win 5).blk t).view.emb y) = V c main_arg8 y
  refine congrArg (V c main_arg8) ?_
  funext a; apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega
theorem iblk1_3 (c : Dev nD) (t : Fin cfg2.N) : iblk1 V c 3 t = V c main_v10 := by
  funext y
  obtain ⟨-, -, -, -, -, -, e0, e1, -⟩ := idx_facts1 t
  show V c main_v10 (((cfg2.win 3).blk t).view.emb y) = V c main_v10 y
  refine congrArg (V c main_v10) ?_
  funext a; apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- The gathered sums' full block at point `t` is rows `2000 t …` of their array: nothing is cut, so every element
    of the block is one the fetch moved. -/
theorem gfill1_eq (c : Dev nD) (t : Fin cfg2.N) : gfill1 V c t = rowsOfG (V c main_v8) (bpt1 t) := by
  funext y
  obtain ⟨-, -, e0, e1, -⟩ := idx_facts1 t
  have hy0 := idx2_lt0 y
  have hm : win2_1.moved (grid2.coords t) y = true := (win2_1.moved_iff _ y).mpr fun a => by
    have := (y a).isLt; unfold Window.xsize; rw [show win2_1.clip (grid2.coords t) a = none from clip_none1 t a]; exact this
  unfold gfill1 Window.fill
  rw [dif_pos hm]
  show V c main_v8 (((cfg2.win 1).blk t).view.emb _) = V c main_v8 (ix2 ⟨(bpt1 t).val * 2000 + (y 0).val, _⟩ (y 1))
  refine congrArg (V c main_v8) ?_
  funext a; apply Fin.ext
  match a with
  | ⟨0, _⟩ => show win2_1.index t (0 : Fin 2) * 2000 + 1 * (y 0).val = t.val * 2000 + (y 0).val; rw [e0]; omega
  | ⟨1, _⟩ => show win2_1.index t (1 : Fin 2) * 128 + 1 * (y 1).val = (y 1).val; rw [e1]; omega

/-- An element of window 6's block at point `t` sits at row `2000 t + r`. -/
theorem emb1_6 (t : Fin cfg2.N) (j : S2000x128.Idx) (h : (bpt1 t).val * 2000 + (j 0).val < 10000) :
    ((cfg2.win 6).blk t).view.emb j = ix2 ⟨(bpt1 t).val * 2000 + (j 0).val, h⟩ (j 1) := by
  obtain ⟨-, -, -, -, -, -, -, -, -, -, -, -, e0, e1, -⟩ := idx_facts1 t
  funext a; apply Fin.ext
  match a with
  | ⟨0, _⟩ => show win2_6.index t (0 : Fin 2) * 2000 + 1 * (j 0).val = t.val * 2000 + (j 0).val; rw [e0]; omega
  | ⟨1, _⟩ => show win2_6.index t (1 : Fin 2) * 128 + 1 * (j 1).val = (j 1).val; rw [e1]; omega

/-- WHAT POINT `t` WRITES BACK through window 6 is block `t` of `H1` of the arrays as the region finds them. -/
theorem flushed1_6_eq (O : CellTallies nD τ sig Ix × Set (SemLoc sig × Ix)) (c : Dev nD) (t : Fin cfg2.N) :
    (dat1 Name U Lvl V O c).flushed 6 t
      = ((cfg2.win 6).blk t).view.read (Elt F) (H1 (V c main_v9) (V c main_v8) (V c main_arg3) (V c main_v10)) := by
  show (cfg2.win 6).cut (grid2.coords t) ((dat1 Name U Lvl V O c).after 6 t) = _
  rw [after1_6]
  unfold outH1
  rw [View.canon_unit_zero hz2]
  simp only [View.ld_unit_zero (S := S2000x128) hz2, View.ld_unit_zero (S := S128x128) hz2, View.ld_unit_zero (S := S1x128) hz2]
  rw [iblk1_0, gfill1_eq, iblk1_2, iblk1_3]
  funext j
  have hj := idx2_lt0 j
  have ht : (bpt1 t).val * 2000 + (j 0).val < 10000 := by have := (bpt1 t).isLt; omega
  show k2_pay1 (rowsOf (V c main_v9) (bpt1 t)) (rowsOfG (V c main_v8) (bpt1 t)) (V c main_arg3) (V c main_v10) j
    = H1 (V c main_v9) (V c main_v8) (V c main_arg3) (V c main_v10) (((cfg2.win 6).blk t).view.emb j)
  rw [emb1_6 t j ht]
  unfold H1
  exact (blockwise_at (fun B => k2_pay1 (rowsOf (V c main_v9) B) (rowsOfG (V c main_v8) B) (V c main_arg3) (V c main_v10)) (bpt1 t) j ht).symm

theorem mem_blk1_6 (t : Fin cfg2.N) (i : S10000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v11_0).slice (win2_6.rect t)).set ↔ _
  rw [View.set_slice_whole, Rect.mem_set_unit]
  exact Iff.rfl

/-- Every row is in the block of the point `⌊row / 2000⌋`. -/
theorem cover1_6 (i : S10000x128.Idx) :
    ∃ t : Fin cfg2.N, (cfg2.win 6).flush t = true ∧ i ∈ ((cfg2.win 6).blk t).view.set := by
  have hi0 := idx2_lt0 i
  have hi1 := idx2_lt1 i
  let t : Fin cfg2.N := ⟨(i 0).val / 2000, by rw [show cfg2.N = 5 from N_2]; omega⟩
  obtain ⟨-, -, -, -, -, -, -, -, -, -, -, -, e0, e1, -⟩ := idx_facts1 t
  refine ⟨t, flush2_6 t, ?_⟩
  rw [mem_blk1_6]
  intro a
  match a with
  | ⟨0, _⟩ => show win2_6.index t (0 : Fin 2) * 2000 ≤ (i 0).val ∧ (i 0).val < win2_6.index t (0 : Fin 2) * 2000 + 2000; rw [e0]; show (i 0).val / 2000 * 2000 ≤ (i 0).val ∧ (i 0).val < (i 0).val / 2000 * 2000 + 2000; omega
  | ⟨1, _⟩ => show win2_6.index t (1 : Fin 2) * 128 ≤ (i 1).val ∧ (i 1).val < win2_6.index t (1 : Fin 2) * 128 + 128; rw [e1]; omega

/-- THE ARRAY of window 6 after the region: `H1` of the input arrays as the region finds them. -/
theorem final1_6 (O : CellTallies nD τ sig Ix × Set (SemLoc sig × Ix)) (c : Dev nD) :
    (dat1 Name U Lvl V O c).arrAt 6 cfg2.N = H1 (V c main_v9) (V c main_v8) (V c main_arg3) (V c main_v10) :=
  (dat1 Name U Lvl V O c).arrAt_eq_of_cover 6 _ (fun t _ => flushed1_6_eq V O c t) cover1_6

/-- An element of window 7's block at point `t` sits at row `2000 t + r`. -/
theorem emb1_7 (t : Fin cfg2.N) (j : S2000x128.Idx) (h : (bpt1 t).val * 2000 + (j 0).val < 10000) :
    ((cfg2.win 7).blk t).view.emb j = ix2 ⟨(bpt1 t).val * 2000 + (j 0).val, h⟩ (j 1) := by
  obtain ⟨-, -, -, -, -, -, -, -, -, -, -, -, -, -, e0, e1⟩ := idx_facts1 t
  funext a; apply Fin.ext
  match a with
  | ⟨0, _⟩ => show win2_7.index t (0 : Fin 2) * 2000 + 1 * (j 0).val = t.val * 2000 + (j 0).val; rw [e0]; omega
  | ⟨1, _⟩ => show win2_7.index t (1 : Fin 2) * 128 + 1 * (j 1).val = (j 1).val; rw [e1]; omega

/-- WHAT POINT `t` WRITES BACK through window 7 is block `t` of `ZN1` of the arrays as the region finds them. -/
theorem flushed1_7_eq (O : CellTallies nD τ sig Ix × Set (SemLoc sig × Ix)) (c : Dev nD) (t : Fin cfg2.N) :
    (dat1 Name U Lvl V O c).flushed 7 t
      = ((cfg2.win 7).blk t).view.read (Elt F) (ZN1 (V c main_v9) (V c main_v8) (V c main_arg3) (V c main_v10) (V c main_arg6) (V c main_arg8)) := by
  show (cfg2.win 7).cut (grid2.coords t) ((dat1 Name U Lvl V O c).after 7 t) = _
  rw [after1_7]
  unfold outZ1
  rw [View.canon_unit_zero hz2]
  simp only [View.ld_unit_zero (S := S2000x128) hz2, View.ld_unit_zero (S := S128x128) hz2, View.ld_unit_zero (S := S1x128) hz2]
  rw [iblk1_0, gfill1_eq, iblk1_2, iblk1_3, iblk1_4, iblk1_5]
  funext j
  have hj := idx2_lt0 j
  have ht : (bpt1 t).val * 2000 + (j 0).val < 10000 := by have := (bpt1 t).isLt; omega
  show k2_pay2 (rowsOf (V c main_v9) (bpt1 t)) (rowsOfG (V c main_v8) (bpt1 t)) (V c main_arg3) (V c main_v10) (V c main_arg6) (V c main_arg8) j
    = ZN1 (V c main_v9) (V c main_v8) (V c main_arg3) (V c main_v10) (V c main_arg6) (V c main_arg8) (((cfg2.win 7).blk t).view.emb j)
  rw [emb1_7 t j ht]
  unfold ZN1
  exact (blockwise_at (fun B => k2_pay2 (rowsOf (V c main_v9) B) (rowsOfG (V c main_v8) B) (V c main_arg3) (V c main_v10) (V c main_arg6) (V c main_arg8)) (bpt1 t) j ht).symm

theorem mem_blk1_7 (t : Fin cfg2.N) (i : S10000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v11_1).slice (win2_7.rect t)).set ↔ _
  rw [View.set_slice_whole, Rect.mem_set_unit]
  exact Iff.rfl

/-- Every row is in the block of the point `⌊row / 2000⌋`. -/
theorem cover1_7 (i : S10000x128.Idx) :
    ∃ t : Fin cfg2.N, (cfg2.win 7).flush t = true ∧ i ∈ ((cfg2.win 7).blk t).view.set := by
  have hi0 := idx2_lt0 i
  have hi1 := idx2_lt1 i
  let t : Fin cfg2.N := ⟨(i 0).val / 2000, by rw [show cfg2.N = 5 from N_2]; omega⟩
  obtain ⟨-, -, -, -, -, -, -, -, -, -, -, -, -, -, e0, e1⟩ := idx_facts1 t
  refine ⟨t, flush2_7 t, ?_⟩
  rw [mem_blk1_7]
  intro a
  match a with
  | ⟨0, _⟩ => show win2_7.index t (0 : Fin 2) * 2000 ≤ (i 0).val ∧ (i 0).val < win2_7.index t (0 : Fin 2) * 2000 + 2000; rw [e0]; show (i 0).val / 2000 * 2000 ≤ (i 0).val ∧ (i 0).val < (i 0).val / 2000 * 2000 + 2000; omega
  | ⟨1, _⟩ => show win2_7.index t (1 : Fin 2) * 128 ≤ (i 1).val ∧ (i 1).val < win2_7.index t (1 : Fin 2) * 128 + 128; rw [e1]; omega

/-- THE ARRAY of window 7 after the region: `ZN1` of the input arrays as the region finds them. -/
theorem final1_7 (O : CellTallies nD τ sig Ix × Set (SemLoc sig × Ix)) (c : Dev nD) :
    (dat1 Name U Lvl V O c).arrAt 7 cfg2.N = ZN1 (V c main_v9) (V c main_v8) (V c main_arg3) (V c main_v10) (V c main_arg6) (V c main_arg8) :=
  (dat1 Name U Lvl V O c).arrAt_eq_of_cover 7 _ (fun t _ => flushed1_7_eq V O c t) cover1_7

/-- The input arrays are as the region found them. -/
theorem kept1 (O : CellTallies nD τ sig Ix × Set (SemLoc sig × Ix)) (c : Dev nD) (w : Fin cfg2.W) (hw : (cfg2.win w).isOut = false) (n : Nat) :
    (dat1 Name U Lvl V O c).arrAt w n = V c (Pipeline.arrRef spec2 w) :=
  ((dat1 Name U Lvl V O c).arrAt_in w hw n).trans (A_eq1 V O c w)

end Value1

end Cert.Kernel.Regions

end
-- ==== Proof.TcFused2BodyK.lean ====
import proofs.«205366_g3083786518796_cont_9to1_852_38_alg».proof.Proof.Gen.Kernel.Launch
import proofs.«205366_g3083786518796_cont_9to1_852_38_alg».proof.Proof.Gen.Kernel.Skeleton
import proofs.«205366_g3083786518796_cont_9to1_852_38_alg».proof.Proof.Gen.Kernel.Points
import proofs.«205366_g3083786518796_cont_9to1_852_38_alg».proof.Proof.TcZBodyK
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# The fused TensorCore region 2: a = z + g · (Wl / 32)ᵀ + b,  h = a if a > 0 else exp a − 1,  zn = h · (Wg' + Ws')ᵀ

Point `t` of the five reads rows `2000 t … 2000 t + 1999` of `z` and of the gathered sums `g` (an array of 10240
rows, of which the five blocks use the first 10000: no block reaches past its end), the whole weight matrices and
the bias row, and writes the same rows of `h` and of `zn`.  Stated at a parameter `V`: the TensorCore's buffer
contents when the region is entered.
-/

section Region2

variable (V : (c : Dev nD) → (b : Ref sig .tc) → Buf (Elt F) ((c : Thread nD τ).loc b))

/-- Window `w`'s block at point `t`, read off its array as the region finds it. -/
def iblk2 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- No block of the gathered sums' window is cut: all five lie inside the 10240 rows. -/
theorem clip_none2 : ∀ (t : Fin cfg4.N) (a : Fin 2), (cfg4.win 1).clip (cfg4.grid.coords t) a = none :=
  (by decide +kernel : ∀ (t : Fin grid4.N) (a : Fin 2), win4_1.clip (grid4.coords t) a = none)

/-- The gathered sums' block at point `t` as a full staging block (the filler is never seen: nothing is cut). -/
def gfill2 (c : Dev nD) (t : Fin cfg4.N) : S2000x128.Idx → Elt F .f32 :=
  win4_1.fill (grid4.coords t) (fun _ => Scalar.ofBits .f32 0#32) (iblk2 V c 1 t)

theorem gfill2_refill (c : Dev nD) (t : Fin cfg4.N) :
    win4_1.fill (grid4.coords t) (fun _ => Scalar.ofBits .f32 0#32) (win4_1.cut (grid4.coords t) (gfill2 V c t)) = gfill2 V c t := by
  unfold gfill2; rw [Window.cut_fill]

/-- An uncut input window's current staging buffer holds its block at every point, fetched there or not. -/
theorem before2_0_of {c : Dev nD} (dat : Dat τ (Elt F) Ix Name U Lvl cfg4 c) (hA : dat.A 0 = V c (Pipeline.arrRef spec4 0))
    (hafter : ∀ t, dat.after 0 t = iblk2 V c 0 t) (t : Fin cfg4.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Ix Name U Lvl cfg4 c) (hA : dat.A 2 = V c (Pipeline.arrRef spec4 2))
    (hafter : ∀ t, dat.after 2 t = iblk2 V c 2 t) (t : Fin cfg4.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Ix Name U Lvl cfg4 c) (hA : dat.A 3 = V c (Pipeline.arrRef spec4 3))
    (hafter : ∀ t, dat.after 3 t = iblk2 V c 3 t) (t : Fin cfg4.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Ix Name U Lvl cfg4 c) (hA : dat.A 4 = V c (Pipeline.arrRef spec4 4))
    (hafter : ∀ t, dat.after 4 t = iblk2 V c 4 t) (t : Fin cfg4.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Ix Name U Lvl cfg4 c) (hA : dat.A 5 = V c (Pipeline.arrRef spec4 5))
    (hafter : ∀ t, dat.after 5 t = iblk2 V c 5 t) (t : Fin cfg4.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The bias row as a rectangle. -/
abbrev rb2 : Rect S1x128 := Rect.unit (s := S1x128) ![0, 0] S1x128.size inb_S1x128_S1x128_0_0

/-- What the body leaves in `h`'s block and in `zn`'s: one store each, of the two payloads of the loaded blocks. -/
def outH2 (z g : Vec F S2000x128 .f32) (wl : Vec F S128x128 .f32) (b : Vec F S1x128 .f32) : Vec F S2000x128 .f32 :=
  View.canon [⟨rB, k4_pay1 (View.ld z rB) (View.ld g rB) (View.ld wl rW) (View.ld b rb2)⟩]
def outZ2 (z g : Vec F S2000x128 .f32) (wl : Vec F S128x128 .f32) (b : Vec F S1x128 .f32) (wg ws : Vec F S128x128 .f32) : Vec F S2000x128 .f32 :=
  View.canon [⟨rB, k4_pay2 (View.ld z rB) (View.ld g rB) (View.ld wl rW) (View.ld b rb2) (View.ld wg rW) (View.ld ws rW)⟩]

set_option maxHeartbeats 400000 in
/-- The body on whole staging memrefs: the six inputs are read and left as they were, the two output blocks end at
    `outH2` and `outZ2` of them. -/
theorem sound_kernel2 (𝒱₀ : Variants) (c : Dev nD) (E : Set Name) (i : grid4.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S2000x128 .f32) (harg7 : arg7.IsWhole) (arg8 : Memref sig .tc .vmem S2000x128 .f32) (harg8 : arg8.IsWhole)
    (z g : Vec F S2000x128 .f32) (wl : Vec F S128x128 .f32) (b : Vec F S1x128 .f32) (wg ws : Vec F S128x128 .f32) (K : PUnit → sProp 𝕄) :
    iprop(owns (c : Thread nD τ) arg1 fullShare z ∗ owns (c : Thread nD τ) arg2 fullShare g ∗ owns (c : Thread nD τ) arg3 fullShare wl
        ∗ owns (c : Thread nD τ) arg4 fullShare b ∗ owns (c : Thread nD τ) arg5 fullShare wg ∗ owns (c : Thread nD τ) arg6 fullShare ws
        ∗ (∃ d, owns (c : Thread nD τ) arg7 fullShare d) ∗ (∃ d, owns (c : Thread nD τ) arg8 fullShare d)
        ∗ (iprop(owns (c : Thread nD τ) arg1 fullShare z ∗ owns (c : Thread nD τ) arg2 fullShare g ∗ owns (c : Thread nD τ) arg3 fullShare wl
            ∗ owns (c : Thread nD τ) arg4 fullShare b ∗ owns (c : Thread nD τ) arg5 fullShare wg ∗ owns (c : Thread nD τ) arg6 fullShare ws
            ∗ owns (c : Thread nD τ) arg7 fullShare (outH2 z g wl b) ∗ owns (c : Thread nD τ) arg8 fullShare (outZ2 z g wl b wg ws)) -∗ K ⟨⟩))
      ⊢ wp frame (wpE (defs₀ (F := F)) 𝒱₀ c none) E
          (cc4__tc_out_fused_body i arg1 harg1 arg2 harg2 arg3 harg3 arg4 harg4 arg5 harg5 arg6 harg6 arg7 harg7 arg8 harg8) K := by
  simp only [cc4__tc_out_fused_body_eq_skeleton]; unfold cc4__tc_out_fused_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  iexists _; isplitr
  swap; · iexact H8
  ipureintro
  exact View.read_writes_eq_canon _ _ _ (cover0 _)

variable (Name U Lvl) in
/-- The proof data of this region on core `c`: the arrays as the region finds them; after the body at point `t`
    each input's buffer at its block (the gathered sums' as a full block) and the two outputs' at the payloads of
    the six input blocks; the invariant is the scoped buffers no window stages, untouched; the core owes the same
    tallies `O.1` throughout, its recorded waits (the pipeline's own apart) within `O.2`; full shares. -/
def dat2 (O : CellTallies nD τ sig Ix × Set (SemLoc sig × Ix)) (c : Dev nD) : Dat τ (Elt F) Ix Name U Lvl cfg4 c where
  A w := V c (Pipeline.arrRef spec4 w)
  after w t := match w with
    | ⟨0, _⟩ => iblk2 V c 0 t
    | ⟨1, _⟩ => gfill2 V c t
    | ⟨2, _⟩ => iblk2 V c 2 t
    | ⟨3, _⟩ => iblk2 V c 3 t
    | ⟨4, _⟩ => iblk2 V c 4 t
    | ⟨5, _⟩ => iblk2 V c 5 t
    | ⟨6, _⟩ => outH2 (iblk2 V c 0 t) (gfill2 V c t) (iblk2 V c 2 t) (iblk2 V c 3 t)
    | ⟨7, _⟩ => outZ2 (iblk2 V c 0 t) (gfill2 V c t) (iblk2 V c 2 t) (iblk2 V c 3 t) (iblk2 V c 4 t) (iblk2 V c 5 t)
  Φ _ := Pipeline.scopedRest spec4 c
  q _ := fullShare
  owed _ := O.1
  recorded _ := O.2

theorem A_eq2 (O : CellTallies nD τ sig Ix × Set (SemLoc sig × Ix)) (c : Dev nD) (w : Fin cfg4.W) :
    (dat2 Name U Lvl V O c).A w = V c (Pipeline.arrRef spec4 w) := by
  dsimp only [dat2]

theorem after2_0 (O : CellTallies nD τ sig Ix × Set (SemLoc sig × Ix)) (c : Dev nD) (t : Fin cfg4.N) :
    (dat2 Name U Lvl V O c).after 0 t = iblk2 V c 0 t := by dsimp only [dat2]
theorem after2_2 (O : CellTallies nD τ sig Ix × Set (SemLoc sig × Ix)) (c : Dev nD) (t : Fin cfg4.N) :
    (dat2 Name U Lvl V O c).after 2 t = iblk2 V c 2 t := by dsimp only [dat2]
theorem after2_3 (O : CellTallies nD τ sig Ix × Set (SemLoc sig × Ix)) (c : Dev nD) (t : Fin cfg4.N) :
    (dat2 Name U Lvl V O c).after 3 t = iblk2 V c 3 t := by dsimp only [dat2]
theorem after2_4 (O : CellTallies nD τ sig Ix × Set (SemLoc sig × Ix)) (c : Dev nD) (t : Fin cfg4.N) :
    (dat2 Name U Lvl V O c).after 4 t = iblk2 V c 4 t := by dsimp only [dat2]
theorem after2_5 (O : CellTallies nD τ sig Ix × Set (SemLoc sig × Ix)) (c : Dev nD) (t : Fin cfg4.N) :
    (dat2 Name U Lvl V O c).after 5 t = iblk2 V c 5 t := by dsimp only [dat2]
theorem after2_1 (O : CellTallies nD τ sig Ix × Set (SemLoc sig × Ix)) (c : Dev nD) (t : Fin cfg4.N) :
    (dat2 Name U Lvl V O c).after 1 t = gfill2 V c t := by dsimp only [dat2]
theorem after2_6 (O : CellTallies nD τ sig Ix × Set (SemLoc sig × Ix)) (c : Dev nD) (t : Fin cfg4.N) :
    (dat2 Name U Lvl V O c).after 6 t = outH2 (iblk2 V c 0 t) (gfill2 V c t) (iblk2 V c 2 t) (iblk2 V c 3 t) := by dsimp only [dat2]
theorem after2_7 (O : CellTallies nD τ sig Ix × Set (SemLoc sig × Ix)) (c : Dev nD) (t : Fin cfg4.N) :
    (dat2 Name U Lvl V O c).after 7 t = outZ2 (iblk2 V c 0 t) (gfill2 V c t) (iblk2 V c 2 t) (iblk2 V c 3 t) (iblk2 V c 4 t) (iblk2 V c 5 t) := by dsimp only [dat2]

theorem before2_0 (O : CellTallies nD τ sig Ix × Set (SemLoc sig × Ix)) (c : Dev nD) (t : Fin cfg4.N) (d) :
    (dat2 Name U Lvl V O c).before 0 t d = iblk2 V c 0 t :=
  before2_0_of V _ (A_eq2 V O c 0) (after2_0 V O c) t d
theorem before2_2 (O : CellTallies nD τ sig Ix × Set (SemLoc sig × Ix)) (c : Dev nD) (t : Fin cfg4.N) (d) :
    (dat2 Name U Lvl V O c).before 2 t d = iblk2 V c 2 t :=
  before2_2_of V _ (A_eq2 V O c 2) (after2_2 V O c) t d
theorem before2_3 (O : CellTallies nD τ sig Ix × Set (SemLoc sig × Ix)) (c : Dev nD) (t : Fin cfg4.N) (d) :
    (dat2 Name U Lvl V O c).before 3 t d = iblk2 V c 3 t :=
  before2_3_of V _ (A_eq2 V O c 3) (after2_3 V O c) t d
theorem before2_4 (O : CellTallies nD τ sig Ix × Set (SemLoc sig × Ix)) (c : Dev nD) (t : Fin cfg4.N) (d) :
    (dat2 Name U Lvl V O c).before 4 t d = iblk2 V c 4 t :=
  before2_4_of V _ (A_eq2 V O c 4) (after2_4 V O c) t d
theorem before2_5 (O : CellTallies nD τ sig Ix × Set (SemLoc sig × Ix)) (c : Dev nD) (t : Fin cfg4.N) (d) :
    (dat2 Name U Lvl V O c).before 5 t d = iblk2 V c 5 t :=
  before2_5_of V _ (A_eq2 V O c 5) (after2_5 V O c) t d
/-- The gathered sums' buffer, fetched at every point, holds the full block whatever it held before. -/
theorem before2_1 (O : CellTallies nD τ sig Ix × Set (SemLoc sig × Ix)) (c : Dev nD) (t : Fin cfg4.N) (d) :
    (dat2 Name U Lvl V O c).before 1 t d = gfill2 V c t := by
  unfold Dat.before; rw [if_pos (fetch4_1 t)]
  exact ((dat2 Name U Lvl V O c).fetched_of_clip_none 1 t (clip_none2 t) d (fun _ => Scalar.ofBits .f32 0#32)).trans
    (by unfold Dat.fetched Dat.blockOf gfill2 iblk2; rw [A_eq2]; try rfl)

/-- What the body is called with at point `t`, the windows one by one, -/
def bodyPre2 (O : CellTallies nD τ sig Ix × Set (SemLoc sig × Ix)) (ι : Ix) (c : Dev nD) (t : Fin cfg4.N) : sProp 𝕄 :=
  iprop((dat2 Name U Lvl V O c).Φ t.castSucc ∗ (dat2 Name U Lvl V O c).owesAt ι t.castSucc
    ∗ (∃ d, owns (c : Thread nD τ) (st4_0 t) fullShare ((dat2 Name U Lvl V O c).before 0 t d))
    ∗ (∃ d, owns (c : Thread nD τ) (st4_1 t) fullShare ((dat2 Name U Lvl V O c).before 1 t d))
    ∗ (∃ d, owns (c : Thread nD τ) (st4_2 t) fullShare ((dat2 Name U Lvl V O c).before 2 t d))
    ∗ (∃ d, owns (c : Thread nD τ) (st4_3 t) fullShare ((dat2 Name U Lvl V O c).before 3 t d))
    ∗ (∃ d, owns (c : Thread nD τ) (st4_4 t) fullShare ((dat2 Name U Lvl V O c).before 4 t d))
    ∗ (∃ d, owns (c : Thread nD τ) (st4_5 t) fullShare ((dat2 Name U Lvl V O c).before 5 t d))
    ∗ (∃ d, owns (c : Thread nD τ) (st4_6 t) fullShare ((dat2 Name U Lvl V O c).before 6 t d))
    ∗ (∃ d, owns (c : Thread nD τ) (st4_7 t) fullShare ((dat2 Name U Lvl V O c).before 7 t d)))

/-- and what it returns: every uncut window's buffer at what the body leaves; the gathered sums' on the part its
    transfers move (here all of it). -/
def bodyPost2 (O : CellTallies nD τ sig Ix × Set (SemLoc sig × Ix)) (ι : Ix) (c : Dev nD) (t : Fin cfg4.N) : sProp 𝕄 :=
  iprop((dat2 Name U Lvl V O c).Φ t.succ ∗ (dat2 Name U Lvl V O c).owesAt ι t.succ
    ∗ owns (c : Thread nD τ) (st4_0 t) fullShare ((dat2 Name U Lvl V O c).after 0 t)
    ∗ (∃ d, owns (c : Thread nD τ) (st4_1 t) fullShare ((cfg4.win 1).fill (cfg4.grid.coords t) d ((cfg4.win 1).cut (cfg4.grid.coords t) ((dat2 Name U Lvl V O c).after 1 t))))
    ∗ owns (c : Thread nD τ) (st4_2 t) fullShare ((dat2 Name U Lvl V O c).after 2 t)
    ∗ owns (c : Thread nD τ) (st4_3 t) fullShare ((dat2 Name U Lvl V O c).after 3 t)
    ∗ owns (c : Thread nD τ) (st4_4 t) fullShare ((dat2 Name U Lvl V O c).after 4 t)
    ∗ owns (c : Thread nD τ) (st4_5 t) fullShare ((dat2 Name U Lvl V O c).after 5 t)
    ∗ owns (c : Thread nD τ) (st4_6 t) fullShare ((dat2 Name U Lvl V O c).after 6 t)
    ∗ owns (c : Thread nD τ) (st4_7 t) fullShare ((dat2 Name U Lvl V O c).after 7 t))

/-- The body at any point: the inputs' buffers hold their blocks, so `sound_kernel2` applies; the invariant and the
    core's debts pass through unread. -/
theorem sound_body2 (𝒱₀ : Variants) (O : CellTallies nD τ sig Ix × Set (SemLoc sig × Ix)) (ι : Ix) (c : Dev nD) (t : Fin cfg4.N) :
    bodyPre2 (Name := Name) (U := U) (Lvl := Lvl) V O ι c t
      ⊢ wp frame (wpE (defs₀ (F := F)) 𝒱₀ c none) Set.univ (bodyAt4 t) (fun _ => bodyPost2 V O ι c t) := by
  unfold bodyPre2 bodyPost2 bodyAt4
  simp only [before2_0, before2_1, before2_2, before2_3, before2_4, before2_5]
  rw [show (dat2 Name U Lvl V O c).Φ t.succ = (dat2 Name U Lvl V O c).Φ t.castSucc from rfl,
    show (dat2 Name U Lvl V O c).owesAt ι t.succ = (dat2 Name U Lvl V O c).owesAt ι t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 𝒱₀ c Set.univ _ _ _ _ _ _ _ _ _ _ _ _ _ _ _ _ _
    (iblk2 V c 0 t) (gfill2 V c t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]
  · iexists (fun _ => Scalar.ofBits .f32 0#32)
    rw [show (cfg4.win 1).fill (cfg4.grid.coords t) (fun _ => Scalar.ofBits .f32 0#32) ((cfg4.win 1).cut (cfg4.grid.coords t) (gfill2 V c t)) = gfill2 V c t
      from gfill2_refill V c t]
    iexact H1
  isplitl [H2]; · iexact H2
  isplitl [H3]; · iexact H3
  isplitl [H4]; · iexact H4
  isplitl [H5]; · iexact H5
  isplitl [H6]; · iexact H6
  iexact H7

/-- The library's body obligation (in the form that states a cut window on the part its transfers move), at every point. -/
theorem body_obligation2 (𝒱₀ : Variants) (O : CellTallies nD τ sig Ix × Set (SemLoc sig × Ix)) (ι : Ix) (c : Dev nD) :
    Pipeline.BodyObligationLoose (dat2 Name U Lvl V O c) (defs₀ (F := F)) 𝒱₀ ι Set.univ := fun t => by
  rw [bigSep_W4, bigSep_W4]
  exact sound_body2 V 𝒱₀ O ι c t

end Region2

end Cert.Kernel.Regions

end
-- ==== Proof.TcFused2ValueK.lean ====
import proofs.«205366_g3083786518796_cont_9to1_852_38_alg».proof.Proof.Gen.Kernel.Launch
import proofs.«205366_g3083786518796_cont_9to1_852_38_alg».proof.Proof.Gen.Kernel.Skeleton
import proofs.«205366_g3083786518796_cont_9to1_852_38_alg».proof.Proof.Gen.Kernel.Points
import proofs.«205366_g3083786518796_cont_9to1_852_38_alg».proof.Proof.TcFused2BodyK
import proofs.«205366_g3083786518796_cont_9to1_852_38_alg».proof.Proof.TcBlocksK
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# Region 2's results as whole-array functions of its arguments

Row `n` of each result is the body's payload of rows `2000 ⌊n / 2000⌋ …` of `z` and of the gathered sums and of the
whole weights and bias, read at row `n mod 2000`: the five write-backs piece each result together.
-/

/-- The activation, whole. -/
def H2 (z : Vec F S10000x128 .f32) (g : Vec F S10240x128 .f32) (wl : Vec F S128x128 .f32) (b : Vec F S1x128 .f32) : Vec F S10000x128 .f32 :=
  blockwise fun B => k4_pay1 (rowsOf z B) (rowsOfG g B) wl b
/-- The next layer's first product, whole. -/
def ZN2 (z : Vec F S10000x128 .f32) (g : Vec F S10240x128 .f32) (wl : Vec F S128x128 .f32) (b : Vec F S1x128 .f32) (wg ws : Vec F S128x128 .f32) : Vec F S10000x128 .f32 :=
  blockwise fun B => k4_pay2 (rowsOf z B) (rowsOfG g B) wl b wg ws

/-- The grid point as a block number. -/
def bpt2 (t : Fin cfg4.N) : Fin 5 := ⟨t.val, lt_of_lt_of_eq t.isLt N_4⟩

/-- The printed index maps over the grid: the row-blocked windows' block is the point's, the others' is the whole. -/
theorem idx_facts2 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

section Value2

variable (V : (c : Dev nD) → (b : Ref sig .tc) → Buf (Elt F) ((c : Thread nD τ).loc b))

theorem iblk2_0 (c : Dev nD) (t : Fin cfg4.N) : iblk2 V c 0 t = rowsOf (V c main_v11_1) (bpt2 t) := by
  funext y
  obtain ⟨e0, e1, -⟩ := idx_facts2 t
  have hy0 := idx2_lt0 y
  show V c main_v11_1 (((cfg4.win 0).blk t).view.emb y) = V c main_v11_1 (ix2 ⟨(bpt2 t).val * 2000 + (y 0).val, _⟩ (y 1))
  refine congrArg (V c main_v11_1) ?_
  funext a; apply Fin.ext
  match a with
  | ⟨0, _⟩ => show win4_0.index t (0 : Fin 2) * 2000 + 1 * (y 0).val = t.val * 2000 + (y 0).val; rw [e0]; omega
  | ⟨1, _⟩ => show win4_0.index t (1 : Fin 2) * 128 + 1 * (y 1).val = (y 1).val; rw [e1]; omega
theorem iblk2_2 (c : Dev nD) (t : Fin cfg4.N) : iblk2 V c 2 t = V c main_arg7 := by
  funext y
  obtain ⟨-, -, -, -, e0, e1, -⟩ := idx_facts2 t
  show V c main_arg7 (((cfg4.win 2).blk t).view.emb y) = V c main_arg7 y
  refine congrArg (V c main_arg7) ?_
  funext a; apply Fin.ext
  match a with
  | ⟨0, _⟩ => show win4_2.index t (0 : Fin 2) * 128 + 1 * (y 0).val = (y 0).val; rw [e0]; omega
  | ⟨1, _⟩ => show win4_2.index t (1 : Fin 2) * 128 + 1 * (y 1).val = (y 1).val; rw [e1]; omega
theorem iblk2_4 (c : Dev nD) (t : Fin cfg4.N) : iblk2 V c 4 t = V c main_arg10 := by
  funext y
  obtain ⟨-, -, -, -, -, -, -, -, e0, e1, -⟩ := idx_facts2 t
  show V c main_arg10 (((cfg4.win 4).blk t).view.emb y) = V c main_arg10 y
  refine congrArg (V c main_arg10) ?_
  funext a; apply Fin.ext
  match a with
  | ⟨0, _⟩ => show win4_4.index t (0 : Fin 2) * 128 + 1 * (y 0).val = (y 0).val; rw [e0]; omega
  | ⟨1, _⟩ => show win4_4.index t (1 : Fin 2) * 128 + 1 * (y 1).val = (y 1).val; rw [e1]; omega
theorem iblk2_5 (c : Dev nD) (t : Fin cfg4.N) : iblk2 V c 5 t = V c main_arg12 := by
  funext y
  obtain ⟨-, -, -, -, -, -, -, -, -, -, e0, e1, -⟩ := idx_facts2 t
  show V c main_arg12 (((cfg4.win 5).blk t).view.emb y) = V c main_arg12 y
  refine congrArg (V c main_arg12) ?_
  funext a; apply Fin.ext
  match a with
  | ⟨0, _⟩ => show win4_5.index t (0 : Fin 2) * 128 + 1 * (y 0).val = (y 0).val; rw [e0]; omega
  | ⟨1, _⟩ => show win4_5.index t (1 : Fin 2) * 128 + 1 * (y 1).val = (y 1).val; rw [e1]; omega
theorem iblk2_3 (c : Dev nD) (t : Fin cfg4.N) : iblk2 V c 3 t = V c main_v13 := by
  funext y
  obtain ⟨-, -, -, -, -, -, e0, e1, -⟩ := idx_facts2 t
  show V c main_v13 (((cfg4.win 3).blk t).view.emb y) = V c main_v13 y
  refine congrArg (V c main_v13) ?_
  funext a; apply Fin.ext
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

/-- The gathered sums' full block at point `t` is rows `2000 t …` of their array: nothing is cut, so every element
    of the block is one the fetch moved. -/
theorem gfill2_eq (c : Dev nD) (t : Fin cfg4.N) : gfill2 V c t = rowsOfG (V c main_v12) (bpt2 t) := by
  funext y
  obtain ⟨-, -, e0, e1, -⟩ := idx_facts2 t
  have hy0 := idx2_lt0 y
  have hm : win4_1.moved (grid4.coords t) y = true := (win4_1.moved_iff _ y).mpr fun a => by
    have := (y a).isLt; unfold Window.xsize; rw [show win4_1.clip (grid4.coords t) a = none from clip_none2 t a]; exact this
  unfold gfill2 Window.fill
  rw [dif_pos hm]
  show V c main_v12 (((cfg4.win 1).blk t).view.emb _) = V c main_v12 (ix2 ⟨(bpt2 t).val * 2000 + (y 0).val, _⟩ (y 1))
  refine congrArg (V c main_v12) ?_
  funext a; apply Fin.ext
  match a with
  | ⟨0, _⟩ => show win4_1.index t (0 : Fin 2) * 2000 + 1 * (y 0).val = t.val * 2000 + (y 0).val; rw [e0]; omega
  | ⟨1, _⟩ => show win4_1.index t (1 : Fin 2) * 128 + 1 * (y 1).val = (y 1).val; rw [e1]; omega

/-- An element of window 6's block at point `t` sits at row `2000 t + r`. -/
theorem emb2_6 (t : Fin cfg4.N) (j : S2000x128.Idx) (h : (bpt2 t).val * 2000 + (j 0).val < 10000) :
    ((cfg4.win 6).blk t).view.emb j = ix2 ⟨(bpt2 t).val * 2000 + (j 0).val, h⟩ (j 1) := by
  obtain ⟨-, -, -, -, -, -, -, -, -, -, -, -, e0, e1, -⟩ := idx_facts2 t
  funext a; apply Fin.ext
  match a with
  | ⟨0, _⟩ => show win4_6.index t (0 : Fin 2) * 2000 + 1 * (j 0).val = t.val * 2000 + (j 0).val; rw [e0]; omega
  | ⟨1, _⟩ => show win4_6.index t (1 : Fin 2) * 128 + 1 * (j 1).val = (j 1).val; rw [e1]; omega

/-- WHAT POINT `t` WRITES BACK through window 6 is block `t` of `H2` of the arrays as the region finds them. -/
theorem flushed2_6_eq (O : CellTallies nD τ sig Ix × Set (SemLoc sig × Ix)) (c : Dev nD) (t : Fin cfg4.N) :
    (dat2 Name U Lvl V O c).flushed 6 t
      = ((cfg4.win 6).blk t).view.read (Elt F) (H2 (V c main_v11_1) (V c main_v12) (V c main_arg7) (V c main_v13)) := by
  show (cfg4.win 6).cut (grid4.coords t) ((dat2 Name U Lvl V O c).after 6 t) = _
  rw [after2_6]
  unfold outH2
  rw [View.canon_unit_zero hz2]
  simp only [View.ld_unit_zero (S := S2000x128) hz2, View.ld_unit_zero (S := S128x128) hz2, View.ld_unit_zero (S := S1x128) hz2]
  rw [iblk2_0, gfill2_eq, iblk2_2, iblk2_3]
  funext j
  have hj := idx2_lt0 j
  have ht : (bpt2 t).val * 2000 + (j 0).val < 10000 := by have := (bpt2 t).isLt; omega
  show k4_pay1 (rowsOf (V c main_v11_1) (bpt2 t)) (rowsOfG (V c main_v12) (bpt2 t)) (V c main_arg7) (V c main_v13) j
    = H2 (V c main_v11_1) (V c main_v12) (V c main_arg7) (V c main_v13) (((cfg4.win 6).blk t).view.emb j)
  rw [emb2_6 t j ht]
  unfold H2
  exact (blockwise_at (fun B => k4_pay1 (rowsOf (V c main_v11_1) B) (rowsOfG (V c main_v12) B) (V c main_arg7) (V c main_v13)) (bpt2 t) j ht).symm

theorem mem_blk2_6 (t : Fin cfg4.N) (i : S10000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v14_0).slice (win4_6.rect t)).set ↔ _
  rw [View.set_slice_whole, Rect.mem_set_unit]
  exact Iff.rfl

/-- Every row is in the block of the point `⌊row / 2000⌋`. -/
theorem cover2_6 (i : S10000x128.Idx) :
    ∃ t : Fin cfg4.N, (cfg4.win 6).flush t = true ∧ i ∈ ((cfg4.win 6).blk t).view.set := by
  have hi0 := idx2_lt0 i
  have hi1 := idx2_lt1 i
  let t : Fin cfg4.N := ⟨(i 0).val / 2000, by rw [show cfg4.N = 5 from N_4]; omega⟩
  obtain ⟨-, -, -, -, -, -, -, -, -, -, -, -, e0, e1, -⟩ := idx_facts2 t
  refine ⟨t, flush4_6 t, ?_⟩
  rw [mem_blk2_6]
  intro a
  match a with
  | ⟨0, _⟩ => show win4_6.index t (0 : Fin 2) * 2000 ≤ (i 0).val ∧ (i 0).val < win4_6.index t (0 : Fin 2) * 2000 + 2000; rw [e0]; show (i 0).val / 2000 * 2000 ≤ (i 0).val ∧ (i 0).val < (i 0).val / 2000 * 2000 + 2000; omega
  | ⟨1, _⟩ => show win4_6.index t (1 : Fin 2) * 128 ≤ (i 1).val ∧ (i 1).val < win4_6.index t (1 : Fin 2) * 128 + 128; rw [e1]; omega

/-- THE ARRAY of window 6 after the region: `H2` of the input arrays as the region finds them. -/
theorem final2_6 (O : CellTallies nD τ sig Ix × Set (SemLoc sig × Ix)) (c : Dev nD) :
    (dat2 Name U Lvl V O c).arrAt 6 cfg4.N = H2 (V c main_v11_1) (V c main_v12) (V c main_arg7) (V c main_v13) :=
  (dat2 Name U Lvl V O c).arrAt_eq_of_cover 6 _ (fun t _ => flushed2_6_eq V O c t) cover2_6

/-- An element of window 7's block at point `t` sits at row `2000 t + r`. -/
theorem emb2_7 (t : Fin cfg4.N) (j : S2000x128.Idx) (h : (bpt2 t).val * 2000 + (j 0).val < 10000) :
    ((cfg4.win 7).blk t).view.emb j = ix2 ⟨(bpt2 t).val * 2000 + (j 0).val, h⟩ (j 1) := by
  obtain ⟨-, -, -, -, -, -, -, -, -, -, -, -, -, -, e0, e1⟩ := idx_facts2 t
  funext a; apply Fin.ext
  match a with
  | ⟨0, _⟩ => show win4_7.index t (0 : Fin 2) * 2000 + 1 * (j 0).val = t.val * 2000 + (j 0).val; rw [e0]; omega
  | ⟨1, _⟩ => show win4_7.index t (1 : Fin 2) * 128 + 1 * (j 1).val = (j 1).val; rw [e1]; omega

/-- WHAT POINT `t` WRITES BACK through window 7 is block `t` of `ZN2` of the arrays as the region finds them. -/
theorem flushed2_7_eq (O : CellTallies nD τ sig Ix × Set (SemLoc sig × Ix)) (c : Dev nD) (t : Fin cfg4.N) :
    (dat2 Name U Lvl V O c).flushed 7 t
      = ((cfg4.win 7).blk t).view.read (Elt F) (ZN2 (V c main_v11_1) (V c main_v12) (V c main_arg7) (V c main_v13) (V c main_arg10) (V c main_arg12)) := by
  show (cfg4.win 7).cut (grid4.coords t) ((dat2 Name U Lvl V O c).after 7 t) = _
  rw [after2_7]
  unfold outZ2
  rw [View.canon_unit_zero hz2]
  simp only [View.ld_unit_zero (S := S2000x128) hz2, View.ld_unit_zero (S := S128x128) hz2, View.ld_unit_zero (S := S1x128) hz2]
  rw [iblk2_0, gfill2_eq, iblk2_2, iblk2_3, iblk2_4, iblk2_5]
  funext j
  have hj := idx2_lt0 j
  have ht : (bpt2 t).val * 2000 + (j 0).val < 10000 := by have := (bpt2 t).isLt; omega
  show k4_pay2 (rowsOf (V c main_v11_1) (bpt2 t)) (rowsOfG (V c main_v12) (bpt2 t)) (V c main_arg7) (V c main_v13) (V c main_arg10) (V c main_arg12) j
    = ZN2 (V c main_v11_1) (V c main_v12) (V c main_arg7) (V c main_v13) (V c main_arg10) (V c main_arg12) (((cfg4.win 7).blk t).view.emb j)
  rw [emb2_7 t j ht]
  unfold ZN2
  exact (blockwise_at (fun B => k4_pay2 (rowsOf (V c main_v11_1) B) (rowsOfG (V c main_v12) B) (V c main_arg7) (V c main_v13) (V c main_arg10) (V c main_arg12)) (bpt2 t) j ht).symm

theorem mem_blk2_7 (t : Fin cfg4.N) (i : S10000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_v14_1).slice (win4_7.rect t)).set ↔ _
  rw [View.set_slice_whole, Rect.mem_set_unit]
  exact Iff.rfl

/-- Every row is in the block of the point `⌊row / 2000⌋`. -/
theorem cover2_7 (i : S10000x128.Idx) :
    ∃ t : Fin cfg4.N, (cfg4.win 7).flush t = true ∧ i ∈ ((cfg4.win 7).blk t).view.set := by
  have hi0 := idx2_lt0 i
  have hi1 := idx2_lt1 i
  let t : Fin cfg4.N := ⟨(i 0).val / 2000, by rw [show cfg4.N = 5 from N_4]; omega⟩
  obtain ⟨-, -, -, -, -, -, -, -, -, -, -, -, -, -, e0, e1⟩ := idx_facts2 t
  refine ⟨t, flush4_7 t, ?_⟩
  rw [mem_blk2_7]
  intro a
  match a with
  | ⟨0, _⟩ => show win4_7.index t (0 : Fin 2) * 2000 ≤ (i 0).val ∧ (i 0).val < win4_7.index t (0 : Fin 2) * 2000 + 2000; rw [e0]; show (i 0).val / 2000 * 2000 ≤ (i 0).val ∧ (i 0).val < (i 0).val / 2000 * 2000 + 2000; omega
  | ⟨1, _⟩ => show win4_7.index t (1 : Fin 2) * 128 ≤ (i 1).val ∧ (i 1).val < win4_7.index t (1 : Fin 2) * 128 + 128; rw [e1]; omega

/-- THE ARRAY of window 7 after the region: `ZN2` of the input arrays as the region finds them. -/
theorem final2_7 (O : CellTallies nD τ sig Ix × Set (SemLoc sig × Ix)) (c : Dev nD) :
    (dat2 Name U Lvl V O c).arrAt 7 cfg4.N = ZN2 (V c main_v11_1) (V c main_v12) (V c main_arg7) (V c main_v13) (V c main_arg10) (V c main_arg12) :=
  (dat2 Name U Lvl V O c).arrAt_eq_of_cover 7 _ (fun t _ => flushed2_7_eq V O c t) cover2_7

/-- The input arrays are as the region found them. -/
theorem kept2 (O : CellTallies nD τ sig Ix × Set (SemLoc sig × Ix)) (c : Dev nD) (w : Fin cfg4.W) (hw : (cfg4.win w).isOut = false) (n : Nat) :
    (dat2 Name U Lvl V O c).arrAt w n = V c (Pipeline.arrRef spec4 w) :=
  ((dat2 Name U Lvl V O c).arrAt_in w hw n).trans (A_eq2 V O c w)

end Value2

end Cert.Kernel.Regions

end
-- ==== Proof.TcOutBodyK.lean ====
import proofs.«205366_g3083786518796_cont_9to1_852_38_alg».proof.Proof.Gen.Kernel.Launch
import proofs.«205366_g3083786518796_cont_9to1_852_38_alg».proof.Proof.Gen.Kernel.Skeleton
import proofs.«205366_g3083786518796_cont_9to1_852_38_alg».proof.Proof.Gen.Kernel.Points
import proofs.«205366_g3083786518796_cont_9to1_852_38_alg».proof.Proof.TcZBodyK
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# The last TensorCore region: a = z + g · (Wl / 32)ᵀ + b,  out = a if a > 0 else exp a − 1

Point `t` of the five reads rows `2000 t … 2000 t + 1999` of `z` and of the gathered sums `g` (10240 rows, the five
blocks inside the first 10000), the whole weight matrix and the bias row, and writes the same rows of the result.
Stated at a parameter `V`: the TensorCore's buffer contents when the region is entered.
-/

section Region3

variable (V : (c : Dev nD) → (b : Ref sig .tc) → Buf (Elt F) ((c : Thread nD τ).loc b))

/-- Window `w`'s block at point `t`, read off its array as the region finds it. -/
def iblk3 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- No block of the gathered sums' window is cut: all five lie inside the 10240 rows. -/
theorem clip_none3 : ∀ (t : Fin cfg6.N) (a : Fin 2), (cfg6.win 1).clip (cfg6.grid.coords t) a = none :=
  (by decide +kernel : ∀ (t : Fin grid6.N) (a : Fin 2), win6_1.clip (grid6.coords t) a = none)

/-- The gathered sums' block at point `t` as a full staging block (the filler is never seen: nothing is cut). -/
def gfill3 (c : Dev nD) (t : Fin cfg6.N) : S2000x128.Idx → Elt F .f32 :=
  win6_1.fill (grid6.coords t) (fun _ => Scalar.ofBits .f32 0#32) (iblk3 V c 1 t)

theorem gfill3_refill (c : Dev nD) (t : Fin cfg6.N) :
    win6_1.fill (grid6.coords t) (fun _ => Scalar.ofBits .f32 0#32) (win6_1.cut (grid6.coords t) (gfill3 V c t)) = gfill3 V c t := by
  unfold gfill3; rw [Window.cut_fill]

/-- An uncut input window's current staging buffer holds its block at every point, fetched there or not. -/
theorem before3_0_of {c : Dev nD} (dat : Dat τ (Elt F) Ix Name U Lvl cfg6 c) (hA : dat.A 0 = V c (Pipeline.arrRef spec6 0))
    (hafter : ∀ t, dat.after 0 t = iblk3 V c 0 t) (t : Fin cfg6.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Ix Name U Lvl cfg6 c) (hA : dat.A 2 = V c (Pipeline.arrRef spec6 2))
    (hafter : ∀ t, dat.after 2 t = iblk3 V c 2 t) (t : Fin cfg6.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Ix Name U Lvl cfg6 c) (hA : dat.A 3 = V c (Pipeline.arrRef spec6 3))
    (hafter : ∀ t, dat.after 3 t = iblk3 V c 3 t) (t : Fin cfg6.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The bias row as a rectangle. -/
abbrev rb3 : Rect S1x128 := Rect.unit (s := S1x128) ![0, 0] S1x128.size inb_S1x128_S1x128_0_0

/-- What the body leaves in the result's block: one store of the payload of the loaded blocks. -/
def outH3 (z g : Vec F S2000x128 .f32) (wl : Vec F S128x128 .f32) (b : Vec F S1x128 .f32) : Vec F S2000x128 .f32 :=
  View.canon [⟨rB, k6_pay1 (View.ld z rB) (View.ld g rB) (View.ld wl rW) (View.ld b rb3)⟩]

set_option maxHeartbeats 400000 in
/-- The body on whole staging memrefs: the four inputs are read and left as they were, the output block ends at
    `outH3` of them. -/
theorem sound_kernel3 (𝒱₀ : Variants) (c : Dev nD) (E : Set Name) (i : grid6.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (z g : Vec F S2000x128 .f32) (wl : Vec F S128x128 .f32) (b : Vec F S1x128 .f32) (K : PUnit → sProp 𝕄) :
    iprop(owns (c : Thread nD τ) arg1 fullShare z ∗ owns (c : Thread nD τ) arg2 fullShare g ∗ owns (c : Thread nD τ) arg3 fullShare wl
        ∗ owns (c : Thread nD τ) arg4 fullShare b ∗ (∃ d, owns (c : Thread nD τ) arg5 fullShare d)
        ∗ (iprop(owns (c : Thread nD τ) arg1 fullShare z ∗ owns (c : Thread nD τ) arg2 fullShare g ∗ owns (c : Thread nD τ) arg3 fullShare wl
            ∗ owns (c : Thread nD τ) arg4 fullShare b ∗ owns (c : Thread nD τ) arg5 fullShare (outH3 z g wl b)) -∗ K ⟨⟩))
      ⊢ wp frame (wpE (defs₀ (F := F)) 𝒱₀ c none) E
          (cc6__tc_out_body i arg1 harg1 arg2 harg2 arg3 harg3 arg4 harg4 arg5 harg5) K := by
  simp only [cc6__tc_out_body_eq_skeleton]; unfold cc6__tc_out_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

variable (Name U Lvl) in
/-- The proof data of this region on core `c`: the arrays as the region finds them; after the body at point `t`
    each input's buffer at its block (the gathered sums' as a full block) and the output's at the payload of the
    four input blocks; the invariant is the scoped buffers no window stages, untouched; the core owes the same
    tallies `O.1` throughout, its recorded waits (the pipeline's own apart) within `O.2`; full shares. -/
def dat3 (O : CellTallies nD τ sig Ix × Set (SemLoc sig × Ix)) (c : Dev nD) : Dat τ (Elt F) Ix Name U Lvl cfg6 c where
  A w := V c (Pipeline.arrRef spec6 w)
  after w t := match w with
    | ⟨0, _⟩ => iblk3 V c 0 t
    | ⟨1, _⟩ => gfill3 V c t
    | ⟨2, _⟩ => iblk3 V c 2 t
    | ⟨3, _⟩ => iblk3 V c 3 t
    | ⟨4, _⟩ => outH3 (iblk3 V c 0 t) (gfill3 V c t) (iblk3 V c 2 t) (iblk3 V c 3 t)
  Φ _ := Pipeline.scopedRest spec6 c
  q _ := fullShare
  owed _ := O.1
  recorded _ := O.2

theorem A_eq3 (O : CellTallies nD τ sig Ix × Set (SemLoc sig × Ix)) (c : Dev nD) (w : Fin cfg6.W) :
    (dat3 Name U Lvl V O c).A w = V c (Pipeline.arrRef spec6 w) := by
  dsimp only [dat3]

theorem after3_0 (O : CellTallies nD τ sig Ix × Set (SemLoc sig × Ix)) (c : Dev nD) (t : Fin cfg6.N) :
    (dat3 Name U Lvl V O c).after 0 t = iblk3 V c 0 t := by dsimp only [dat3]
theorem after3_2 (O : CellTallies nD τ sig Ix × Set (SemLoc sig × Ix)) (c : Dev nD) (t : Fin cfg6.N) :
    (dat3 Name U Lvl V O c).after 2 t = iblk3 V c 2 t := by dsimp only [dat3]
theorem after3_3 (O : CellTallies nD τ sig Ix × Set (SemLoc sig × Ix)) (c : Dev nD) (t : Fin cfg6.N) :
    (dat3 Name U Lvl V O c).after 3 t = iblk3 V c 3 t := by dsimp only [dat3]
theorem after3_1 (O : CellTallies nD τ sig Ix × Set (SemLoc sig × Ix)) (c : Dev nD) (t : Fin cfg6.N) :
    (dat3 Name U Lvl V O c).after 1 t = gfill3 V c t := by dsimp only [dat3]
theorem after3_4 (O : CellTallies nD τ sig Ix × Set (SemLoc sig × Ix)) (c : Dev nD) (t : Fin cfg6.N) :
    (dat3 Name U Lvl V O c).after 4 t = outH3 (iblk3 V c 0 t) (gfill3 V c t) (iblk3 V c 2 t) (iblk3 V c 3 t) := by dsimp only [dat3]

theorem before3_0 (O : CellTallies nD τ sig Ix × Set (SemLoc sig × Ix)) (c : Dev nD) (t : Fin cfg6.N) (d) :
    (dat3 Name U Lvl V O c).before 0 t d = iblk3 V c 0 t :=
  before3_0_of V _ (A_eq3 V O c 0) (after3_0 V O c) t d
theorem before3_2 (O : CellTallies nD τ sig Ix × Set (SemLoc sig × Ix)) (c : Dev nD) (t : Fin cfg6.N) (d) :
    (dat3 Name U Lvl V O c).before 2 t d = iblk3 V c 2 t :=
  before3_2_of V _ (A_eq3 V O c 2) (after3_2 V O c) t d
theorem before3_3 (O : CellTallies nD τ sig Ix × Set (SemLoc sig × Ix)) (c : Dev nD) (t : Fin cfg6.N) (d) :
    (dat3 Name U Lvl V O c).before 3 t d = iblk3 V c 3 t :=
  before3_3_of V _ (A_eq3 V O c 3) (after3_3 V O c) t d
/-- The gathered sums' buffer, fetched at every point, holds the full block whatever it held before. -/
theorem before3_1 (O : CellTallies nD τ sig Ix × Set (SemLoc sig × Ix)) (c : Dev nD) (t : Fin cfg6.N) (d) :
    (dat3 Name U Lvl V O c).before 1 t d = gfill3 V c t := by
  unfold Dat.before; rw [if_pos (fetch6_1 t)]
  exact ((dat3 Name U Lvl V O c).fetched_of_clip_none 1 t (clip_none3 t) d (fun _ => Scalar.ofBits .f32 0#32)).trans
    (by unfold Dat.fetched Dat.blockOf gfill3 iblk3; rw [A_eq3]; try rfl)

/-- What the body is called with at point `t`, the windows one by one, -/
def bodyPre3 (O : CellTallies nD τ sig Ix × Set (SemLoc sig × Ix)) (ι : Ix) (c : Dev nD) (t : Fin cfg6.N) : sProp 𝕄 :=
  iprop((dat3 Name U Lvl V O c).Φ t.castSucc ∗ (dat3 Name U Lvl V O c).owesAt ι t.castSucc
    ∗ (∃ d, owns (c : Thread nD τ) (st6_0 t) fullShare ((dat3 Name U Lvl V O c).before 0 t d))
    ∗ (∃ d, owns (c : Thread nD τ) (st6_1 t) fullShare ((dat3 Name U Lvl V O c).before 1 t d))
    ∗ (∃ d, owns (c : Thread nD τ) (st6_2 t) fullShare ((dat3 Name U Lvl V O c).before 2 t d))
    ∗ (∃ d, owns (c : Thread nD τ) (st6_3 t) fullShare ((dat3 Name U Lvl V O c).before 3 t d))
    ∗ (∃ d, owns (c : Thread nD τ) (st6_4 t) fullShare ((dat3 Name U Lvl V O c).before 4 t d)))

/-- and what it returns: every uncut window's buffer at what the body leaves; the gathered sums' on the part its
    transfers move (here all of it). -/
def bodyPost3 (O : CellTallies nD τ sig Ix × Set (SemLoc sig × Ix)) (ι : Ix) (c : Dev nD) (t : Fin cfg6.N) : sProp 𝕄 :=
  iprop((dat3 Name U Lvl V O c).Φ t.succ ∗ (dat3 Name U Lvl V O c).owesAt ι t.succ
    ∗ owns (c : Thread nD τ) (st6_0 t) fullShare ((dat3 Name U Lvl V O c).after 0 t)
    ∗ (∃ d, owns (c : Thread nD τ) (st6_1 t) fullShare ((cfg6.win 1).fill (cfg6.grid.coords t) d ((cfg6.win 1).cut (cfg6.grid.coords t) ((dat3 Name U Lvl V O c).after 1 t))))
    ∗ owns (c : Thread nD τ) (st6_2 t) fullShare ((dat3 Name U Lvl V O c).after 2 t)
    ∗ owns (c : Thread nD τ) (st6_3 t) fullShare ((dat3 Name U Lvl V O c).after 3 t)
    ∗ owns (c : Thread nD τ) (st6_4 t) fullShare ((dat3 Name U Lvl V O c).after 4 t))

/-- The body at any point: the inputs' buffers hold their blocks, so `sound_kernel3` applies; the invariant and the
    core's debts pass through unread. -/
theorem sound_body3 (𝒱₀ : Variants) (O : CellTallies nD τ sig Ix × Set (SemLoc sig × Ix)) (ι : Ix) (c : Dev nD) (t : Fin cfg6.N) :
    bodyPre3 (Name := Name) (U := U) (Lvl := Lvl) V O ι c t
      ⊢ wp frame (wpE (defs₀ (F := F)) 𝒱₀ c none) Set.univ (bodyAt6 t) (fun _ => bodyPost3 V O ι c t) := by
  unfold bodyPre3 bodyPost3 bodyAt6
  simp only [before3_0, before3_1, before3_2, before3_3]
  rw [show (dat3 Name U Lvl V O c).Φ t.succ = (dat3 Name U Lvl V O c).Φ t.castSucc from rfl,
    show (dat3 Name U Lvl V O c).owesAt ι t.succ = (dat3 Name U Lvl V O c).owesAt ι t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 𝒱₀ c Set.univ _ _ _ _ _ _ _ _ _ _ _
    (iblk3 V c 0 t) (gfill3 V c t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]
  · iexists (fun _ => Scalar.ofBits .f32 0#32)
    rw [show (cfg6.win 1).fill (cfg6.grid.coords t) (fun _ => Scalar.ofBits .f32 0#32) ((cfg6.win 1).cut (cfg6.grid.coords t) (gfill3 V c t)) = gfill3 V c t
      from gfill3_refill V c t]
    iexact H1
  isplitl [H2]; · iexact H2
  isplitl [H3]; · iexact H3
  iexact H4

/-- The library's body obligation (in the form that states a cut window on the part its transfers move), at every point. -/
theorem body_obligation3 (𝒱₀ : Variants) (O : CellTallies nD τ sig Ix × Set (SemLoc sig × Ix)) (ι : Ix) (c : Dev nD) :
    Pipeline.BodyObligationLoose (dat3 Name U Lvl V O c) (defs₀ (F := F)) 𝒱₀ ι Set.univ := fun t => by
  rw [bigSep_W6, bigSep_W6]
  exact sound_body3 V 𝒱₀ O ι c t

end Region3

end Cert.Kernel.Regions

end
-- ==== Proof.TcOutValueK.lean ====
import proofs.«205366_g3083786518796_cont_9to1_852_38_alg».proof.Proof.Gen.Kernel.Launch
import proofs.«205366_g3083786518796_cont_9to1_852_38_alg».proof.Proof.Gen.Kernel.Skeleton
import proofs.«205366_g3083786518796_cont_9to1_852_38_alg».proof.Proof.Gen.Kernel.Points
import proofs.«205366_g3083786518796_cont_9to1_852_38_alg».proof.Proof.TcOutBodyK
import proofs.«205366_g3083786518796_cont_9to1_852_38_alg».proof.Proof.TcBlocksK
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# Region 3's results as whole-array functions of its arguments

Row `n` of each result is the body's payload of rows `2000 ⌊n / 2000⌋ …` of `z` and of the gathered sums and of the
whole weights and bias, read at row `n mod 2000`: the five write-backs piece each result together.
-/

/-- The activation, whole. -/
def H3 (z : Vec F S10000x128 .f32) (g : Vec F S10240x128 .f32) (wl : Vec F S128x128 .f32) (b : Vec F S1x128 .f32) : Vec F S10000x128 .f32 :=
  blockwise fun B => k6_pay1 (rowsOf z B) (rowsOfG g B) wl b

/-- The grid point as a block number. -/
def bpt3 (t : Fin cfg6.N) : Fin 5 := ⟨t.val, lt_of_lt_of_eq t.isLt N_6⟩

/-- The printed index maps over the grid: the row-blocked windows' block is the point's, the others' is the whole. -/
theorem idx_facts3 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

section Value3

variable (V : (c : Dev nD) → (b : Ref sig .tc) → Buf (Elt F) ((c : Thread nD τ).loc b))

theorem iblk3_0 (c : Dev nD) (t : Fin cfg6.N) : iblk3 V c 0 t = rowsOf (V c main_v14_1) (bpt3 t) := by
  funext y
  obtain ⟨e0, e1, -⟩ := idx_facts3 t
  have hy0 := idx2_lt0 y
  show V c main_v14_1 (((cfg6.win 0).blk t).view.emb y) = V c main_v14_1 (ix2 ⟨(bpt3 t).val * 2000 + (y 0).val, _⟩ (y 1))
  refine congrArg (V c main_v14_1) ?_
  funext a; apply Fin.ext
  match a with
  | ⟨0, _⟩ => show win6_0.index t (0 : Fin 2) * 2000 + 1 * (y 0).val = t.val * 2000 + (y 0).val; rw [e0]; omega
  | ⟨1, _⟩ => show win6_0.index t (1 : Fin 2) * 128 + 1 * (y 1).val = (y 1).val; rw [e1]; omega
theorem iblk3_2 (c : Dev nD) (t : Fin cfg6.N) : iblk3 V c 2 t = V c main_arg11 := by
  funext y
  obtain ⟨-, -, -, -, e0, e1, -⟩ := idx_facts3 t
  show V c main_arg11 (((cfg6.win 2).blk t).view.emb y) = V c main_arg11 y
  refine congrArg (V c main_arg11) ?_
  funext a; apply Fin.ext
  match a with
  | ⟨0, _⟩ => show win6_2.index t (0 : Fin 2) * 128 + 1 * (y 0).val = (y 0).val; rw [e0]; omega
  | ⟨1, _⟩ => show win6_2.index t (1 : Fin 2) * 128 + 1 * (y 1).val = (y 1).val; rw [e1]; omega
theorem iblk3_3 (c : Dev nD) (t : Fin cfg6.N) : iblk3 V c 3 t = V c main_v16 := by
  funext y
  obtain ⟨-, -, -, -, -, -, e0, e1, -⟩ := idx_facts3 t
  show V c main_v16 (((cfg6.win 3).blk t).view.emb y) = V c main_v16 y
  refine congrArg (V c main_v16) ?_
  funext a; apply Fin.ext
  match a with
  | ⟨0, _⟩ => show win6_3.index t (0 : Fin 2) * 1 + 1 * (y 0).val = (y 0).val; rw [e0]; omega
  | ⟨1, _⟩ => show win6_3.index t (1 : Fin 2) * 128 + 1 * (y 1).val = (y 1).val; rw [e1]; omega

/-- The gathered sums' full block at point `t` is rows `2000 t …` of their array: nothing is cut, so every element
    of the block is one the fetch moved. -/
theorem gfill3_eq (c : Dev nD) (t : Fin cfg6.N) : gfill3 V c t = rowsOfG (V c main_v15) (bpt3 t) := by
  funext y
  obtain ⟨-, -, e0, e1, -⟩ := idx_facts3 t
  have hy0 := idx2_lt0 y
  have hm : win6_1.moved (grid6.coords t) y = true := (win6_1.moved_iff _ y).mpr fun a => by
    have := (y a).isLt; unfold Window.xsize; rw [show win6_1.clip (grid6.coords t) a = none from clip_none3 t a]; exact this
  unfold gfill3 Window.fill
  rw [dif_pos hm]
  show V c main_v15 (((cfg6.win 1).blk t).view.emb _) = V c main_v15 (ix2 ⟨(bpt3 t).val * 2000 + (y 0).val, _⟩ (y 1))
  refine congrArg (V c main_v15) ?_
  funext a; apply Fin.ext
  match a with
  | ⟨0, _⟩ => show win6_1.index t (0 : Fin 2) * 2000 + 1 * (y 0).val = t.val * 2000 + (y 0).val; rw [e0]; omega
  | ⟨1, _⟩ => show win6_1.index t (1 : Fin 2) * 128 + 1 * (y 1).val = (y 1).val; rw [e1]; omega

/-- An element of window 4's block at point `t` sits at row `2000 t + r`. -/
theorem emb3_4 (t : Fin cfg6.N) (j : S2000x128.Idx) (h : (bpt3 t).val * 2000 + (j 0).val < 10000) :
    ((cfg6.win 4).blk t).view.emb j = ix2 ⟨(bpt3 t).val * 2000 + (j 0).val, h⟩ (j 1) := by
  obtain ⟨-, -, -, -, -, -, -, -, e0, e1⟩ := idx_facts3 t
  funext a; apply Fin.ext
  match a with
  | ⟨0, _⟩ => show win6_4.index t (0 : Fin 2) * 2000 + 1 * (j 0).val = t.val * 2000 + (j 0).val; rw [e0]; omega
  | ⟨1, _⟩ => show win6_4.index t (1 : Fin 2) * 128 + 1 * (j 1).val = (j 1).val; rw [e1]; omega

/-- WHAT POINT `t` WRITES BACK through window 4 is block `t` of `H3` of the arrays as the region finds them. -/
theorem flushed3_4_eq (O : CellTallies nD τ sig Ix × Set (SemLoc sig × Ix)) (c : Dev nD) (t : Fin cfg6.N) :
    (dat3 Name U Lvl V O c).flushed 4 t
      = ((cfg6.win 4).blk t).view.read (Elt F) (H3 (V c main_v14_1) (V c main_v15) (V c main_arg11) (V c main_v16)) := by
  show (cfg6.win 4).cut (grid6.coords t) ((dat3 Name U Lvl V O c).after 4 t) = _
  rw [after3_4]
  unfold outH3
  rw [View.canon_unit_zero hz2]
  simp only [View.ld_unit_zero (S := S2000x128) hz2, View.ld_unit_zero (S := S128x128) hz2, View.ld_unit_zero (S := S1x128) hz2]
  rw [iblk3_0, gfill3_eq, iblk3_2, iblk3_3]
  funext j
  have hj := idx2_lt0 j
  have ht : (bpt3 t).val * 2000 + (j 0).val < 10000 := by have := (bpt3 t).isLt; omega
  show k6_pay1 (rowsOf (V c main_v14_1) (bpt3 t)) (rowsOfG (V c main_v15) (bpt3 t)) (V c main_arg11) (V c main_v16) j
    = H3 (V c main_v14_1) (V c main_v15) (V c main_arg11) (V c main_v16) (((cfg6.win 4).blk t).view.emb j)
  rw [emb3_4 t j ht]
  unfold H3
  exact (blockwise_at (fun B => k6_pay1 (rowsOf (V c main_v14_1) B) (rowsOfG (V c main_v15) B) (V c main_arg11) (V c main_v16)) (bpt3 t) j ht).symm

theorem mem_blk3_4 (t : Fin cfg6.N) (i : S10000x128.Idx) :
    i ∈ ((cfg6.win 4).blk t).view.set ↔ ∀ a : Fin 2, win6_4.index t a * S2000x128.size a ≤ (i a).val ∧ (i a).val < win6_4.index t a * S2000x128.size a + S2000x128.size a := by
  show i ∈ ((View.whole main_v17).slice (win6_4.rect t)).set ↔ _
  rw [View.set_slice_whole, Rect.mem_set_unit]
  exact Iff.rfl

/-- Every row is in the block of the point `⌊row / 2000⌋`. -/
theorem cover3_4 (i : S10000x128.Idx) :
    ∃ t : Fin cfg6.N, (cfg6.win 4).flush t = true ∧ i ∈ ((cfg6.win 4).blk t).view.set := by
  have hi0 := idx2_lt0 i
  have hi1 := idx2_lt1 i
  let t : Fin cfg6.N := ⟨(i 0).val / 2000, by rw [show cfg6.N = 5 from N_6]; omega⟩
  obtain ⟨-, -, -, -, -, -, -, -, e0, e1⟩ := idx_facts3 t
  refine ⟨t, flush6_4 t, ?_⟩
  rw [mem_blk3_4]
  intro a
  match a with
  | ⟨0, _⟩ => show win6_4.index t (0 : Fin 2) * 2000 ≤ (i 0).val ∧ (i 0).val < win6_4.index t (0 : Fin 2) * 2000 + 2000; rw [e0]; show (i 0).val / 2000 * 2000 ≤ (i 0).val ∧ (i 0).val < (i 0).val / 2000 * 2000 + 2000; omega
  | ⟨1, _⟩ => show win6_4.index t (1 : Fin 2) * 128 ≤ (i 1).val ∧ (i 1).val < win6_4.index t (1 : Fin 2) * 128 + 128; rw [e1]; omega

/-- THE ARRAY of window 4 after the region: `H3` of the input arrays as the region finds them. -/
theorem final3_4 (O : CellTallies nD τ sig Ix × Set (SemLoc sig × Ix)) (c : Dev nD) :
    (dat3 Name U Lvl V O c).arrAt 4 cfg6.N = H3 (V c main_v14_1) (V c main_v15) (V c main_arg11) (V c main_v16) :=
  (dat3 Name U Lvl V O c).arrAt_eq_of_cover 4 _ (fun t _ => flushed3_4_eq V O c t) cover3_4

/-- The input arrays are as the region found them. -/
theorem kept3 (O : CellTallies nD τ sig Ix × Set (SemLoc sig × Ix)) (c : Dev nD) (w : Fin cfg6.W) (hw : (cfg6.win w).isOut = false) (n : Nat) :
    (dat3 Name U Lvl V O c).arrAt w n = V c (Pipeline.arrRef spec6 w) :=
  ((dat3 Name U Lvl V O c).arrAt_in w hw n).trans (A_eq3 V O c w)

end Value3

end Cert.Kernel.Regions

end
-- ==== Proof.IdxTermK.lean ====
/-
  The index table the kernel's host operations build, as one term, and what its entries are.

  The term below is the composition of the program's first eleven host operations, each spelt as its line spells
  it.  It is the table of the layout module built with the program's own shape facts, so its entries are the edge
  array's row 1 laid out worker by worker, and every entry names a node when every edge word does.
-/
import proofs.«205366_g3083786518796_cont_9to1_852_38_alg».proof.Proof.Gen.Kernel
import proofs.«205366_g3083786518796_cont_9to1_852_38_alg».proof.Proof.IdxLayout
import proofs.«205366_g3083786518796_cont_9to1_852_38_alg».proof.Proof.PreFacts

namespace Cert.Kernel.IdxTerm

open Idealize.ShloMosaic ValueIdx Cert.Kernel

variable [Facts]
open Facts₀ Facts

/-- The [32,10496] index table as a function of the edge array: slice row 1, flatten, append 7680 zeros, view as
    [32,10240], and write into columns 0 … 10239 of a zero [32,10496] array. -/
def idxTerm (e : IVec S2x320000 32) : IVec S32x10496 32 :=
  Host.scatter scatter_S32x10496_S1_S32x10240_01_n_1_0 (fun _ b => b)
    (broadcastInDim S32x10496 ![] bcast_S_S32x10496 (constantI S_ 32 0#32))
    (broadcastInDim S1 ![] bcast_S_S1 (constantI S_ 32 0#32))
    (shapeCast S32x10240
      (concatenate S327680 0
        [⟨S320000, shapeCast S320000 (extractStridedSlice S1x320000 ![1, 0] e slices_S2x320000_S1x320000_1_0)
            shapeCasts_S1x320000_S320000⟩,
          ⟨S7680, broadcastInDim S7680 ![] bcast_S_S7680 (constantI S_ 32 0#32)⟩]
        concatenates_S320000_S7680_S327680_d0)
      shapeCasts_S327680_S32x10240)

/-- The term is the layout module's table at the program's shape facts. -/
theorem idxTerm_eq (e : IVec S2x320000 32) :
    idxTerm e = Cert.IdxLayout.idxOf scatter_S32x10496_S1_S32x10240_01_n_1_0_wf slices_S2x320000_S1x320000_1_0
      shapeCasts_S1x320000_S320000 bcast_S_S7680 concatenates_S320000_S7680_S327680_d0 shapeCasts_S327680_S32x10240
      bcast_S_S32x10496 bcast_S_S1 e := rfl

/-- The table is the edge array's row 1 laid out worker by worker. -/
theorem glue (e : IVec S2x320000 32) : Cert.IdxGlue.GlueRel e (idxTerm e) := by
  rw [idxTerm_eq]
  exact Cert.IdxLayout.glue _ _ _ _ _ _ _ _ e

/-- Every entry of the table names a node when every edge word lies in 0 … 9999. -/
theorem idxOk (e : IVec S2x320000 32) (he : ∀ i, (0 : Int) ≤ (e i).toInt ∧ (e i).toInt ≤ 9999) :
    ∀ w : Fin 32, ∀ k : Fin 10496, ((idxTerm e) (ix2 w k)).toNat < 10000 := by
  intro w k
  rw [idxTerm_eq]
  exact Cert.IdxLayout.idxOk _ _ _ _ _ _ _ _ e (fun i => (Cert.PreFacts.toNat_lt_of_range _ (he i)).1) w k

end Cert.Kernel.IdxTerm
-- ==== Proof.ScNamesK.lean ====
/-
  The contents the program computes, named: the index table, each SparseCore call's table, the neighbour sums, the
  TensorCore regions' results, as pure terms of the launch memory (generic in the float instance); and, at the
  extended reals, that the last of them is the three-layer network in the kernel's order.
-/
import proofs.«205366_g3083786518796_cont_9to1_852_38_alg».proof.Proof.GSumK
import proofs.«205366_g3083786518796_cont_9to1_852_38_alg».proof.Proof.TcZValueK
import proofs.«205366_g3083786518796_cont_9to1_852_38_alg».proof.Proof.TcFused1ValueK
import proofs.«205366_g3083786518796_cont_9to1_852_38_alg».proof.Proof.TcFused2ValueK
import proofs.«205366_g3083786518796_cont_9to1_852_38_alg».proof.Proof.TcOutValueK
import proofs.«205366_g3083786518796_cont_9to1_852_38_alg».proof.Proof.IdxTermK

noncomputable section

namespace Cert.Proof.KB

open Cert.Kernel Cert.Kernel.Gen Cert.Kernel.Regions
open Idealize.ShloMosaic Idealize.SL.Sem
open Idealize.ShloMosaic.ValueIdx

variable {F : FTy → Type} [FloatOps F]
variable (m : (ℓ : Loc nD τ sig) → Buf (Elt F) ℓ)

/-- The launch contents of a TensorCore array of device `d`. -/
abbrev argOf (d : Dev nD) (b : Ref sig .tc) : Buf (Elt F) (((SparseCore.T d : Thread nD τ)).loc b) := m ((SparseCore.T d : Thread nD τ).loc b)

/-- The padded index table the host operations lay out from row 1 of `edge`. -/
def IbOf (d : Dev nD) : S32x10496.Idx → BitVec 32 := Cert.Kernel.IdxTerm.idxTerm (argOf m d main_arg1 : IVec S2x320000 32)

/-- The three biases as rows. -/
def B0of (d : Dev nD) : FVec F S1x128 .f32 := shapeCast S1x128 (argOf m d main_arg5 : FVec F S128 .f32) shapeCasts_S128_S1x128
def B1of (d : Dev nD) : FVec F S1x128 .f32 := shapeCast S1x128 (argOf m d main_arg9 : FVec F S128 .f32) shapeCasts_S128_S1x128
def B2of (d : Dev nD) : FVec F S1x128 .f32 := shapeCast S1x128 (argOf m d main_arg13 : FVec F S128 .f32) shapeCasts_S128_S1x128

/-- Layer by layer: the table of the call, its neighbour sums, the next first product. -/
def T0of (d : Dev nD) : S10000x128.Idx → F .f32 := (argOf m d main_arg0 : FVec F S10000x128 .f32)
def G0of (d : Dev nD) : S10240x128.Idx → F .f32 := gsumF (T0of m d) (IbOf m d)
def Z0of (d : Dev nD) : FVec F S10000x128 .f32 := Z0 (T0of m d) (argOf m d main_arg2 : FVec F S128x128 .f32) (argOf m d main_arg4 : FVec F S128x128 .f32)
def T1of (d : Dev nD) : S10000x128.Idx → F .f32 := H1 (Z0of m d) (G0of m d) (argOf m d main_arg3 : FVec F S128x128 .f32) (B0of m d)
def Z1of (d : Dev nD) : FVec F S10000x128 .f32 :=
  ZN1 (Z0of m d) (G0of m d) (argOf m d main_arg3 : FVec F S128x128 .f32) (B0of m d) (argOf m d main_arg6 : FVec F S128x128 .f32) (argOf m d main_arg8 : FVec F S128x128 .f32)
def G1of (d : Dev nD) : S10240x128.Idx → F .f32 := gsumF (T1of m d) (IbOf m d)
def T2of (d : Dev nD) : S10000x128.Idx → F .f32 := H2 (Z1of m d) (G1of m d) (argOf m d main_arg7 : FVec F S128x128 .f32) (B1of m d)
def Z2of (d : Dev nD) : FVec F S10000x128 .f32 :=
  ZN2 (Z1of m d) (G1of m d) (argOf m d main_arg7 : FVec F S128x128 .f32) (B1of m d) (argOf m d main_arg10 : FVec F S128x128 .f32) (argOf m d main_arg12 : FVec F S128x128 .f32)
def G2of (d : Dev nD) : S10240x128.Idx → F .f32 := gsumF (T2of m d) (IbOf m d)
/-- The program's result. -/
def ResOf (d : Dev nD) : S10000x128.Idx → F .f32 := H3 (Z2of m d) (G2of m d) (argOf m d main_arg11 : FVec F S128x128 .f32) (B2of m d)

/-- Call `q`'s table. -/
def TbOf : Fin 3 → Dev nD → S10000x128.Idx → F .f32 := fun q d => match q with | 0 => T0of m d | 1 => T1of m d | 2 => T2of m d

end Cert.Proof.KB

end
-- ==== Proof.HostPrefixK.lean ====
/-
  The host operations at the head of the program, as one straight line.

  The program begins with eleven host operations that build the padded index table from the edge array and touch
  twelve buffers; the rest of the program follows.  Running the line from contents V leaves the table's buffer at the
  index-table term of the edge array's contents and leaves the edge array's buffer as it was.  Three single
  reshapes later in the program turn a [128] bias into a [1,128] row.
-/
import proofs.«205366_g3083786518796_cont_9to1_852_38_alg».proof.Proof.Gen.Kernel
import proofs.«205366_g3083786518796_cont_9to1_852_38_alg».proof.Proof.IdxTermK
import Idealize.ShloMosaic.Lib.StableHlo.Run

set_option synthInstance.maxSize 4096

noncomputable section

namespace Cert.Kernel.HostPre

open Idealize.ShloMosaic Idealize.SL.Sem Cert.Kernel

variable {F : FTy → Type} [FloatOps F]
variable [Facts]
open Facts₀ Facts

/-- The eleven host operations, in order. -/
def preOps : List (HloOp τ sig (Elt F)) :=
  [
    StableHlo.unary main_arg1 main_v0 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v0 main_v1 rfl shapeCasts_S1x320000_S320000,
    StableHlo.nullary main_c (constantI S_ 32 0#32),
    StableHlo.unary main_c main_v2 (broadcastInDim S7680 ![] bcast_S_S7680 : (⟨S_, .i32⟩ : BufTy).Contents (Elt F) → (⟨S7680, .i32⟩ : BufTy).Contents (Elt F)),
    StableHlo.binary main_v1 main_v2 main_v3 ((fun a b => concatenate S327680 0 [⟨S320000, a⟩, ⟨S7680, b⟩] concatenates_S320000_S7680_S327680_d0) : (⟨S320000, .i32⟩ : BufTy).Contents (Elt F) → (⟨S7680, .i32⟩ : BufTy).Contents (Elt F) → (⟨S327680, .i32⟩ : BufTy).Contents (Elt F)),
    StableHlo.reshape main_v3 main_v4 rfl shapeCasts_S327680_S32x10240,
    StableHlo.nullary main_c_0 (constantI S_ 32 0#32),
    StableHlo.unary main_c_0 main_v5 (broadcastInDim S32x10496 ![] bcast_S_S32x10496 : (⟨S_, .i32⟩ : BufTy).Contents (Elt F) → (⟨S32x10496, .i32⟩ : BufTy).Contents (Elt F)),
    StableHlo.nullary main_c_1 (constantI S_ 32 0#32),
    StableHlo.unary main_c_1 main_v6 (broadcastInDim S1 ![] bcast_S_S1 : (⟨S_, .i32⟩ : BufTy).Contents (Elt F) → (⟨S1, .i32⟩ : BufTy).Contents (Elt F)),
    StableHlo.ternary main_v5 main_v6 main_v4 main_v7 ((fun x i u => Host.scatter scatter_S32x10496_S1_S32x10240_01_n_1_0 (fun _ b => b) x i u) : (⟨S32x10496, .i32⟩ : BufTy).Contents (Elt F) → (⟨S1, .i32⟩ : BufTy).Contents (Elt F) → (⟨S32x10240, .i32⟩ : BufTy).Contents (Elt F) → (⟨S32x10496, .i32⟩ : BufTy).Contents (Elt F))
  ]

/-- The program after the eleven host operations. -/
def rest0 (d : Dev nD) : Prog (TpuEff nD τ sig (Elt F) (SparseCore.Sig (Pipeline.Sig Λ₀ (Fin 4) fun p => (pcfgs (F := F) p).Adm) 3) .tc) PUnit := do
  sc.run d 0
  Prog.lift (.customCall (SparseCore.inner (Pipeline.entry 0)) ())
  hlo rfl (StableHlo.reshape main_arg5 main_v10 rfl shapeCasts_S128_S1x128) (fun _ => .ret ⟨⟩)
  Prog.lift (.customCall (SparseCore.inner (Pipeline.entry 1)) ())
  sc.run d 1
  hlo rfl (StableHlo.reshape main_arg9 main_v13 rfl shapeCasts_S128_S1x128) (fun _ => .ret ⟨⟩)
  Prog.lift (.customCall (SparseCore.inner (Pipeline.entry 2)) ())
  sc.run d 2
  hlo rfl (StableHlo.reshape main_arg13 main_v16 rfl shapeCasts_S128_S1x128) (fun _ => .ret ⟨⟩)
  Prog.lift (.customCall (SparseCore.inner (Pipeline.entry 3)) ())
  pure ⟨⟩

/-- The program is the line of host operations followed by the rest. -/
theorem main_eq (d : Dev nD) : main (F := F) d = (StableHlo.seq preOps >>= fun _ => rest0 d) := rfl

/-- The twelve buffers the line touches. -/
def Spre : Finset (DevRef τ sig) :=
  {Proc.devRef .tc main_arg1, Proc.devRef .tc main_v0, Proc.devRef .tc main_v1, Proc.devRef .tc main_c, Proc.devRef .tc main_v2,
    Proc.devRef .tc main_v3, Proc.devRef .tc main_v4, Proc.devRef .tc main_c_0, Proc.devRef .tc main_v5, Proc.devRef .tc main_c_1,
    Proc.devRef .tc main_v6, Proc.devRef .tc main_v7}

theorem pre_fresh : ∀ op ∈ (preOps (F := F)), op.fresh = ∅ := by
  intro op hop
  simp only [preOps, List.mem_cons, List.mem_nil_iff, or_false] at hop
  rcases hop with rfl | rfl | rfl | rfl | rfl | rfl | rfl | rfl | rfl | rfl | rfl <;> rfl

theorem pre_bufs : ∀ op ∈ (preOps (F := F)), op.bufs ⊆ Spre := by
  intro op hop
  simp only [preOps, List.mem_cons, List.mem_nil_iff, or_false] at hop
  rcases hop with rfl | rfl | rfl | rfl | rfl | rfl | rfl | rfl | rfl | rfl | rfl
  · exact show ({Proc.devRef .tc main_arg1, Proc.devRef .tc main_v0} : Finset (DevRef τ sig)) ⊆ Spre by decide
  · exact show ({Proc.devRef .tc main_v0, Proc.devRef .tc main_v1} : Finset (DevRef τ sig)) ⊆ Spre by decide
  · exact show ({Proc.devRef .tc main_c} : Finset (DevRef τ sig)) ⊆ Spre by decide
  · exact show ({Proc.devRef .tc main_c, Proc.devRef .tc main_v2} : Finset (DevRef τ sig)) ⊆ Spre by decide
  · exact show ({Proc.devRef .tc main_v1, Proc.devRef .tc main_v2, Proc.devRef .tc main_v3} : Finset (DevRef τ sig)) ⊆ Spre by decide
  · exact show ({Proc.devRef .tc main_v3, Proc.devRef .tc main_v4} : Finset (DevRef τ sig)) ⊆ Spre by decide
  · exact show ({Proc.devRef .tc main_c_0} : Finset (DevRef τ sig)) ⊆ Spre by decide
  · exact show ({Proc.devRef .tc main_c_0, Proc.devRef .tc main_v5} : Finset (DevRef τ sig)) ⊆ Spre by decide
  · exact show ({Proc.devRef .tc main_c_1} : Finset (DevRef τ sig)) ⊆ Spre by decide
  · exact show ({Proc.devRef .tc main_c_1, Proc.devRef .tc main_v6} : Finset (DevRef τ sig)) ⊆ Spre by decide
  · exact show ({Proc.devRef .tc main_v5, Proc.devRef .tc main_v6, Proc.devRef .tc main_v4, Proc.devRef .tc main_v7} : Finset (DevRef τ sig)) ⊆ Spre by decide

open StableHlo in
/-- After the line the table's buffer holds the index table of the edge array's contents. -/
theorem after_pre_v7 (V : Valuation τ sig (Elt F)) :
    (StableHlo.after preOps V (Proc.devRef .tc main_v7) : IVec S32x10496 32)
      = Cert.Kernel.IdxTerm.idxTerm (V (Proc.devRef .tc main_arg1) : IVec S2x320000 32) := by
  unfold preOps
  after_results
  rfl

open StableHlo in
/-- The line does not write the edge array. -/
theorem after_pre_arg1 (V : Valuation τ sig (Elt F)) :
    StableHlo.after preOps V (Proc.devRef .tc main_arg1) = V (Proc.devRef .tc main_arg1) := by
  unfold preOps
  after_results

/-! ### The three bias reshapes -/

def rsOp10 : HloOp τ sig (Elt F) := StableHlo.reshape main_arg5 main_v10 rfl shapeCasts_S128_S1x128
def rsOp13 : HloOp τ sig (Elt F) := StableHlo.reshape main_arg9 main_v13 rfl shapeCasts_S128_S1x128
def rsOp16 : HloOp τ sig (Elt F) := StableHlo.reshape main_arg13 main_v16 rfl shapeCasts_S128_S1x128

theorem rsOp10_bufs : (rsOp10 (F := F)).bufs = {Proc.devRef .tc main_arg5, Proc.devRef .tc main_v10} := rfl
theorem rsOp13_bufs : (rsOp13 (F := F)).bufs = {Proc.devRef .tc main_arg9, Proc.devRef .tc main_v13} := rfl
theorem rsOp16_bufs : (rsOp16 (F := F)).bufs = {Proc.devRef .tc main_arg13, Proc.devRef .tc main_v16} := rfl
theorem rsOp10_fresh : (rsOp10 (F := F)).fresh = ∅ := rfl
theorem rsOp13_fresh : (rsOp13 (F := F)).fresh = ∅ := rfl
theorem rsOp16_fresh : (rsOp16 (F := F)).fresh = ∅ := rfl

theorem rsOp10_result (V : Valuation τ sig (Elt F)) :
    ((rsOp10 (F := F)).result V (Proc.devRef .tc main_v10) : FVec F S1x128 .f32)
      = shapeCast S1x128 (V (Proc.devRef .tc main_arg5) : FVec F S128 .f32) shapeCasts_S128_S1x128 :=
  StableHlo.reshape_result main_arg5 main_v10 rfl shapeCasts_S128_S1x128 ⟨by decide, rfl⟩ ⟨by decide, rfl⟩ V
theorem rsOp13_result (V : Valuation τ sig (Elt F)) :
    ((rsOp13 (F := F)).result V (Proc.devRef .tc main_v13) : FVec F S1x128 .f32)
      = shapeCast S1x128 (V (Proc.devRef .tc main_arg9) : FVec F S128 .f32) shapeCasts_S128_S1x128 :=
  StableHlo.reshape_result main_arg9 main_v13 rfl shapeCasts_S128_S1x128 ⟨by decide, rfl⟩ ⟨by decide, rfl⟩ V
theorem rsOp16_result (V : Valuation τ sig (Elt F)) :
    ((rsOp16 (F := F)).result V (Proc.devRef .tc main_v16) : FVec F S1x128 .f32)
      = shapeCast S1x128 (V (Proc.devRef .tc main_arg13) : FVec F S128 .f32) shapeCasts_S128_S1x128 :=
  StableHlo.reshape_result main_arg13 main_v16 rfl shapeCasts_S128_S1x128 ⟨by decide, rfl⟩ ⟨by decide, rfl⟩ V

/-- A reshape writes only its result. -/
theorem rsOp10_result_ne (V : Valuation τ sig (Elt F)) {r : Ref sig .tc} (h : r ≠ main_v10) :
    (rsOp10 (F := F)).result V (Proc.devRef .tc r) = V (Proc.devRef .tc r) := StableHlo.reshape_result_ne _ _ _ _ _ _ V h
theorem rsOp13_result_ne (V : Valuation τ sig (Elt F)) {r : Ref sig .tc} (h : r ≠ main_v13) :
    (rsOp13 (F := F)).result V (Proc.devRef .tc r) = V (Proc.devRef .tc r) := StableHlo.reshape_result_ne _ _ _ _ _ _ V h
theorem rsOp16_result_ne (V : Valuation τ sig (Elt F)) {r : Ref sig .tc} (h : r ≠ main_v16) :
    (rsOp16 (F := F)).result V (Proc.devRef .tc r) = V (Proc.devRef .tc r) := StableHlo.reshape_result_ne _ _ _ _ _ _ V h

/-- The [1,128] view of a [128] array: entry (0, j) is entry j. -/
theorem row_of_vec {α : Type} (x : S128.Idx → α) (j : Fin 128) :
    shapeCast S1x128 x shapeCasts_S128_S1x128 (ValueIdx.ix2 (0 : Fin 1) j) = x (ValueIdx.ix1 j) := by
  refine shapeCast_apply x _ (ValueIdx.ix2 (0 : Fin 1) j) (ValueIdx.ix1 j) ?_
  rw [Shape.rowMajor_val_one, Shape.rowMajor_val_two]
  show j.val = 0 * 128 + j.val
  omega

end Cert.Kernel.HostPre

end
-- ==== Proof.ScGhostK.lean ====
/-
  The launch element of the proof's ghost state: the handshake cells' rounds, the barrier cells' rounds (three rounds
  per cell, a duty per tile of the SparseCore in each), the TensorCore pipelines' staging cells' rounds, and what @main's
  proof is dealt from them beside the launch's own deal.
-/
import proofs.«205366_g3083786518796_cont_9to1_852_38_alg».proof.Proof.ScPayK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

abbrev DCI : Type := Dev nD × Fin τ.nSC × Fin τ.nSub
abbrev bcell₃ (x : DCI) : GSem nD τ sig := bcell x.1 x.2.1 x.2.2
def bCells : Finset (GSem nD τ sig) := Finset.univ.image bcell₃
/-- Tile `i`'s token in tile `j`'s cell at round `r`, for every pair of tiles of a SparseCore and each of the three rounds. -/
def bToks : Finset (GSem nD τ sig × ℕ × ℕ) :=
  Finset.univ.image fun x : DCI × Fin 3 × Fin τ.nSub => (bcell₃ x.1, x.2.1.val, x.2.2.val)

def u₀ : UU :=
  (initOf (K (F := F)).hsCells (K (F := F)).hsToks,
    (initOf bCells bToks, (initOf (Pipeline.cells (nD := nD) (τ := τ) cfgs cellOf_inj) (Pipeline.launchToks (nD := nD) (τ := τ) cfgs cellOf_inj), 1)))

/-- What @main's proof starts from beside the launch's deal: every tile's barrier cell at the origin of round 0, and the
    TensorCore pipelines' staging cells' launch state and duty tokens. -/
def G (d : Dev nD) : sProp 𝕄 :=
  iprop((bigSep Finset.univ fun ci : Fin τ.nSC × Fin τ.nSub => barCarry (F := F) 0 d ci.1 ci.2)
    ∗ (bigSep Finset.univ fun p : Fin 4 => Pipeline.cellsGhost (nD := nD) (τ := τ) cfgs (ER (F := F)) p d)
    ∗ (bigSep Finset.univ fun p : Fin 4 => (Pipeline.toksInit (nD := nD) (τ := τ) cfgs (ER (F := F)) p d : sProp 𝕄)))

end Cert.Proof.KB

end
-- ==== Proof.TcSegsK.lean ====
import proofs.«205366_g3083786518796_cont_9to1_852_38_alg».proof.Proof.Gen.Kernel.Launch
import proofs.«205366_g3083786518796_cont_9to1_852_38_alg».proof.Proof.Gen.Kernel.Skeleton
import proofs.«205366_g3083786518796_cont_9to1_852_38_alg».proof.Proof.Gen.Kernel.Points
import proofs.«205366_g3083786518796_cont_9to1_852_38_alg».proof.Proof.TcZBodyK
import proofs.«205366_g3083786518796_cont_9to1_852_38_alg».proof.Proof.TcFused1BodyK
import proofs.«205366_g3083786518796_cont_9to1_852_38_alg».proof.Proof.TcFused2BodyK
import proofs.«205366_g3083786518796_cont_9to1_852_38_alg».proof.Proof.TcOutBodyK
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl
/-!
# The four TensorCore regions as region records

Every pipeline's proof data at its own entry contents `V p` and its core's own constant debts `(O p c).1` with the wait pairs recorded before the region within `(O p c).2`, as one family; and
per region the library's record: the layout facts, the body obligation, and the four entailments between the thread
state around the region and the pipeline's precondition.  The thread state entering a region is exactly the region's
arrays at their entry contents and the core's debts; leaving it, the arrays at their final contents and the debts.
The wait evidence (`hwaits`) depends on the caller's levels and is a parameter.
-/

section Segs

variable (V : Fin 4 → (c : Dev nD) → (b : Ref sig .tc) → Buf (Elt F) ((c : Thread nD τ).loc b))
variable (O : Fin 4 → Dev nD → CellTallies nD τ sig Ix × Set (SemLoc sig × Ix))

/-- No pipeline has a prefetched table. -/
abbrev adm : (p : Fin 4) → (pcfgs (F := F) p).Adm := fun p => (cfgs p).toPCfg_adm

variable (Name U Lvl) in
/-- Every pipeline's proof data — a literal match on the pipeline, so that the pinned configuration at a numeral
    reduces to the printed one. -/
def pdats : (p : Fin 4) → (c : Dev nD) → Dat τ (Elt F) Ix Name U Lvl (Pipeline.pin (pcfgs (F := F)) adm p) c
  | ⟨0, _⟩ => fun c => dat0 Name U Lvl (V 0) (O 0 c) c
  | ⟨1, _⟩ => fun c => dat1 Name U Lvl (V 1) (O 1 c) c
  | ⟨2, _⟩ => fun c => dat2 Name U Lvl (V 2) (O 2 c) c
  | ⟨3, _⟩ => fun c => dat3 Name U Lvl (V 3) (O 3 c) c

theorem pdats_0 (c : Dev nD) : pdats Name U Lvl V O 0 c = dat0 Name U Lvl (V 0) (O 0 c) c := rfl
theorem pdats_1 (c : Dev nD) : pdats Name U Lvl V O 1 c = dat1 Name U Lvl (V 1) (O 1 c) c := rfl
theorem pdats_2 (c : Dev nD) : pdats Name U Lvl V O 2 c = dat2 Name U Lvl (V 2) (O 2 c) c := rfl
theorem pdats_3 (c : Dev nD) : pdats Name U Lvl V O 3 c = dat3 Name U Lvl (V 3) (O 3 c) c := rfl

variable (𝒱₀ : Variants) (ι : Ix) (L : GSem nD τ sig → Finset Ix) (lv : GSem nD τ sig → Ix → Lvl)

-- a library lemma stated over the pinned configuration unifies with the printed one only when unification may unfold
-- plain definitions in a metavariable's type
set_option backward.isDefEq.respectTransparency.types false in
/-- REGION 0 (custom_call 1): entered holding its arrays at the entry contents and the core's debts `O 0`, left
    holding the arrays at what the write-backs leave and the same debts; no semaphore of the kernel's own; the
    invariant is the scoped buffers no window stages. -/
def reg0 (hwaits : ∀ c, (levAts L lv : sProp 𝕄) ⊢ Pipeline.cellsWaits (Pipeline.pin (pcfgs (F := F)) adm) (pdats Name U Lvl V O) ι 0 c) :
    Pipeline.RegionSeg (pcfgs (F := F)) adm (pdats Name U Lvl V O) ι defs₀ 𝒱₀ L lv 0 where
  win := launch1.win.to₀
  block_pos := launch1.block_pos
  stage_whole := launch1.stage_whole
  K := PEmpty
  osem k := k.elim
  ho := Pipeline.OwnSemFacts.none _
  hbody c := (body_obligation0 (V 0) 𝒱₀ (O 0 c) ι c).loose
  hwaits := hwaits
  pre c := iprop((pdats Name U Lvl V O 0 c).arrays ((pdats Name U Lvl V O 0 c).arrAt · 0) ∗ (pdats Name U Lvl V O 0 c).owesAt ι 0)
  post c := iprop((pdats Name U Lvl V O 0 c).arrays ((pdats Name U Lvl V O 0 c).arrAt · cfg1.N) ∗ (pdats Name U Lvl V O 0 c).owesAt ι (Fin.last cfg1.N))
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (pdats Name U Lvl V O 0 c).Φ 0 = Pipeline.scopedRest spec1 c from rfl]
    iintro ⟨-, -, Hr⟩
    iexact Hr
  hout c := by
    rw [Pipeline.ownSems0_none, show (pdats Name U Lvl V O 0 c).Φ (Fin.last _) = Pipeline.scopedRest spec1 c from rfl]
    iintro Hr
    isplitr; · iempintro
    isplitr; · iempintro
    iexact Hr
  hexit c := by
    iintro ⟨Ha, HO, -, -⟩
    imodintro
    isplitl [Ha]; · iexact Ha
    iexact HO

-- a library lemma stated over the pinned configuration unifies with the printed one only when unification may unfold
-- plain definitions in a metavariable's type
set_option backward.isDefEq.respectTransparency.types false in
/-- REGION 1 (custom_call 2): entered holding its arrays at the entry contents and the core's debts `O 1`, left
    holding the arrays at what the write-backs leave and the same debts; no semaphore of the kernel's own; the
    invariant is the scoped buffers no window stages. -/
def reg1 (hwaits : ∀ c, (levAts L lv : sProp 𝕄) ⊢ Pipeline.cellsWaits (Pipeline.pin (pcfgs (F := F)) adm) (pdats Name U Lvl V O) ι 1 c) :
    Pipeline.RegionSeg (pcfgs (F := F)) adm (pdats Name U Lvl V O) ι defs₀ 𝒱₀ L lv 1 where
  win := launch2.win.to₀
  block_pos := launch2.block_pos
  stage_whole := launch2.stage_whole
  K := PEmpty
  osem k := k.elim
  ho := Pipeline.OwnSemFacts.none _
  hbody c := body_obligation1 (V 1) 𝒱₀ (O 1 c) ι c
  hwaits := hwaits
  pre c := iprop((pdats Name U Lvl V O 1 c).arrays ((pdats Name U Lvl V O 1 c).arrAt · 0) ∗ (pdats Name U Lvl V O 1 c).owesAt ι 0)
  post c := iprop((pdats Name U Lvl V O 1 c).arrays ((pdats Name U Lvl V O 1 c).arrAt · cfg2.N) ∗ (pdats Name U Lvl V O 1 c).owesAt ι (Fin.last cfg2.N))
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (pdats Name U Lvl V O 1 c).Φ 0 = Pipeline.scopedRest spec2 c from rfl]
    iintro ⟨-, -, Hr⟩
    iexact Hr
  hout c := by
    rw [Pipeline.ownSems0_none, show (pdats Name U Lvl V O 1 c).Φ (Fin.last _) = Pipeline.scopedRest spec2 c from rfl]
    iintro Hr
    isplitr; · iempintro
    isplitr; · iempintro
    iexact Hr
  hexit c := by
    iintro ⟨Ha, HO, -, -⟩
    imodintro
    isplitl [Ha]; · iexact Ha
    iexact HO

-- a library lemma stated over the pinned configuration unifies with the printed one only when unification may unfold
-- plain definitions in a metavariable's type
set_option backward.isDefEq.respectTransparency.types false in
/-- REGION 2 (custom_call 4): entered holding its arrays at the entry contents and the core's debts `O 2`, left
    holding the arrays at what the write-backs leave and the same debts; no semaphore of the kernel's own; the
    invariant is the scoped buffers no window stages. -/
def reg2 (hwaits : ∀ c, (levAts L lv : sProp 𝕄) ⊢ Pipeline.cellsWaits (Pipeline.pin (pcfgs (F := F)) adm) (pdats Name U Lvl V O) ι 2 c) :
    Pipeline.RegionSeg (pcfgs (F := F)) adm (pdats Name U Lvl V O) ι defs₀ 𝒱₀ L lv 2 where
  win := launch4.win.to₀
  block_pos := launch4.block_pos
  stage_whole := launch4.stage_whole
  K := PEmpty
  osem k := k.elim
  ho := Pipeline.OwnSemFacts.none _
  hbody c := body_obligation2 (V 2) 𝒱₀ (O 2 c) ι c
  hwaits := hwaits
  pre c := iprop((pdats Name U Lvl V O 2 c).arrays ((pdats Name U Lvl V O 2 c).arrAt · 0) ∗ (pdats Name U Lvl V O 2 c).owesAt ι 0)
  post c := iprop((pdats Name U Lvl V O 2 c).arrays ((pdats Name U Lvl V O 2 c).arrAt · cfg4.N) ∗ (pdats Name U Lvl V O 2 c).owesAt ι (Fin.last cfg4.N))
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (pdats Name U Lvl V O 2 c).Φ 0 = Pipeline.scopedRest spec4 c from rfl]
    iintro ⟨-, -, Hr⟩
    iexact Hr
  hout c := by
    rw [Pipeline.ownSems0_none, show (pdats Name U Lvl V O 2 c).Φ (Fin.last _) = Pipeline.scopedRest spec4 c from rfl]
    iintro Hr
    isplitr; · iempintro
    isplitr; · iempintro
    iexact Hr
  hexit c := by
    iintro ⟨Ha, HO, -, -⟩
    imodintro
    isplitl [Ha]; · iexact Ha
    iexact HO

-- a library lemma stated over the pinned configuration unifies with the printed one only when unification may unfold
-- plain definitions in a metavariable's type
set_option backward.isDefEq.respectTransparency.types false in
/-- REGION 3 (custom_call 6): entered holding its arrays at the entry contents and the core's debts `O 3`, left
    holding the arrays at what the write-backs leave and the same debts; no semaphore of the kernel's own; the
    invariant is the scoped buffers no window stages. -/
def reg3 (hwaits : ∀ c, (levAts L lv : sProp 𝕄) ⊢ Pipeline.cellsWaits (Pipeline.pin (pcfgs (F := F)) adm) (pdats Name U Lvl V O) ι 3 c) :
    Pipeline.RegionSeg (pcfgs (F := F)) adm (pdats Name U Lvl V O) ι defs₀ 𝒱₀ L lv 3 where
  win := launch6.win.to₀
  block_pos := launch6.block_pos
  stage_whole := launch6.stage_whole
  K := PEmpty
  osem k := k.elim
  ho := Pipeline.OwnSemFacts.none _
  hbody c := body_obligation3 (V 3) 𝒱₀ (O 3 c) ι c
  hwaits := hwaits
  pre c := iprop((pdats Name U Lvl V O 3 c).arrays ((pdats Name U Lvl V O 3 c).arrAt · 0) ∗ (pdats Name U Lvl V O 3 c).owesAt ι 0)
  post c := iprop((pdats Name U Lvl V O 3 c).arrays ((pdats Name U Lvl V O 3 c).arrAt · cfg6.N) ∗ (pdats Name U Lvl V O 3 c).owesAt ι (Fin.last cfg6.N))
  X _ := iprop(emp)
  Y _ := iprop(emp)
  Z _ := iprop(emp)
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (pdats Name U Lvl V O 3 c).Φ 0 = Pipeline.scopedRest spec6 c from rfl]
    iintro ⟨-, -, Hr⟩
    iexact Hr
  hout c := by
    rw [Pipeline.ownSems0_none, show (pdats Name U Lvl V O 3 c).Φ (Fin.last _) = Pipeline.scopedRest spec6 c from rfl]
    iintro Hr
    isplitr; · iempintro
    isplitr; · iempintro
    iexact Hr
  hexit c := by
    iintro ⟨Ha, HO, -, -⟩
    imodintro
    isplitl [Ha]; · iexact Ha
    iexact HO

end Segs

end Cert.Kernel.Regions

end
-- ==== Proof.TcLiftK.lean ====
import proofs.«205366_g3083786518796_cont_9to1_852_38_alg».proof.Proof.ScSetupK
import proofs.«205366_g3083786518796_cont_9to1_852_38_alg».proof.Proof.TcSegsK

set_option maxRecDepth 16384

noncomputable section

/-!
# A TensorCore region entered from the program with SparseCore calls

In the whole program a region is the call of the region's label through the SparseCore layer's signature.  A proof
about the call under the pipelines' own label table is a proof about it under the extended table, so the region
rule at the pipeline level serves: from the thread's boundary, the region's arrays at their entry contents, the
pipeline's staging-cell ghost state and the core's debts (none at the index the region's own waits use), the call
runs to the boundary, the arrays at what the write-backs leave, and the same debts.
-/

namespace Cert.Proof.KB

open Cert.Kernel Cert.Kernel.Gen Cert.Kernel.Regions

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 3) (Elt F) ℕ UU ℕ

section Lift

variable (W : Fin 4 → (c : Dev nD) → (b : Ref sig .tc) → Buf (Elt F) ((c : Thread nD τ).loc b))
variable (O : Fin 4 → Dev nD → CellTallies nD τ sig (HIx 3) × Set (SemLoc sig × HIx 3))
variable (lv : GSem nD τ sig → HIx 3 → ℕ)

/-- The region's own waits are at the index `none`, below every debt of the launch protocol. -/
theorem hwaits0 (hO : ∀ p d g, (O p d).1 g none = 0) (hlv : (K (F := F)).Refines lv) (c : Dev nD) : (levAts (K (F := F)).L lv : sProp 𝕄)
    ⊢ Pipeline.cellsWaits (Pipeline.pin (pcfgs (F := F)) adm) (pdats ℕ UU ℕ W O) (none : HIx 3) 0 c :=
  Pipeline.cellsWaits_intro _ _ (none : HIx 3) 0 c fun w s t => (K (F := F)).mayWait_none _ (hO 0 c) lv hlv
theorem hwaits1 (hO : ∀ p d g, (O p d).1 g none = 0) (hlv : (K (F := F)).Refines lv) (c : Dev nD) : (levAts (K (F := F)).L lv : sProp 𝕄)
    ⊢ Pipeline.cellsWaits (Pipeline.pin (pcfgs (F := F)) adm) (pdats ℕ UU ℕ W O) (none : HIx 3) 1 c :=
  Pipeline.cellsWaits_intro _ _ (none : HIx 3) 1 c fun w s t => (K (F := F)).mayWait_none _ (hO 1 c) lv hlv
theorem hwaits2 (hO : ∀ p d g, (O p d).1 g none = 0) (hlv : (K (F := F)).Refines lv) (c : Dev nD) : (levAts (K (F := F)).L lv : sProp 𝕄)
    ⊢ Pipeline.cellsWaits (Pipeline.pin (pcfgs (F := F)) adm) (pdats ℕ UU ℕ W O) (none : HIx 3) 2 c :=
  Pipeline.cellsWaits_intro _ _ (none : HIx 3) 2 c fun w s t => (K (F := F)).mayWait_none _ (hO 2 c) lv hlv
theorem hwaits3 (hO : ∀ p d g, (O p d).1 g none = 0) (hlv : (K (F := F)).Refines lv) (c : Dev nD) : (levAts (K (F := F)).L lv : sProp 𝕄)
    ⊢ Pipeline.cellsWaits (Pipeline.pin (pcfgs (F := F)) adm) (pdats ℕ UU ℕ W O) (none : HIx 3) 3 c :=
  Pipeline.cellsWaits_intro _ _ (none : HIx 3) 3 c fun w s t => (K (F := F)).mayWait_none _ (hO 3 c) lv hlv

-- a library lemma stated over the pinned configuration unifies with the printed one only when unification may unfold
-- plain definitions in a metavariable's type
set_option backward.isDefEq.respectTransparency.types false in
/-- A region record's rule, read in the whole program: the call of the region's label through the SparseCore layer. -/
theorem wp_regionSeg {p : Fin 4}
    (R : Pipeline.RegionSeg (pcfgs (F := F)) adm (pdats ℕ UU ℕ W O) (none : HIx 3) defs₀ 𝒱₀ (K (F := F)).L lv p)
    (d : Dev nD) {α : Type} (k : PUnit → Prog (TpuEff nD τ sig (Elt F) (SparseCore.Sig (ΛP (F := F)) 3) .tc) α) (Φ : α → sProp 𝕄) :
    iprop(boundary (T d : Thread nD τ) ∗ R.pre d ∗ levAts (K (F := F)).L lv
        ∗ Pipeline.cellsGhost (Pipeline.pin (pcfgs (F := F)) adm) ER p d ∗ Pipeline.toksInit (Pipeline.pin (pcfgs (F := F)) adm) ER p d
        ∗ (iprop(boundary (T d : Thread nD τ) ∗ R.post d) -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry p)) ()) >>= k) Φ := by
  rw [wp_bind]
  iintro ⟨Hb, Hpre, Hlev, Hg, Ht, Hk⟩
  iapply ((K (F := F)).wp_liftProg D 𝒱 (T d) Set.univ none
    (.op (.customCall (Pipeline.entry p) ()) fun _ => .ret PUnit.unit) _)
  iapply (Pipeline.RegionSeg.wp (pcfgs (F := F)) adm (pdats ℕ UU ℕ W O) (none : HIx 3) cellOf_inj ER defs₀ 𝒱₀
    (K (F := F)).L lv R d none (fun u hu => by cases hu) (fun _ => .ret PUnit.unit) _)
  isplitl [Hk]
  · iintro Hbp
    rw [wp_ret]
    imodintro
    iapply Hk
    iexact Hbp
  isplitl [Hb]; · iexact Hb
  isplitl [Hpre]; · iexact Hpre
  isplitl [Hlev]; · iexact Hlev
  isplitl [Hg]; · iexact Hg
  iexact Ht

/-- The thread state region 0 is entered from, made of its arrays and the core's plain debts (the wait pairs recorded so
    far within the proof data's bound); and what it is left in, read back: the wait pairs recorded by then are the
    earlier ones and the pipeline's own. -/
theorem pre_intro0 (hw : ∀ c, (levAts (K (F := F)).L lv : sProp 𝕄) ⊢ Pipeline.cellsWaits (Pipeline.pin (pcfgs (F := F)) adm) (pdats ℕ UU ℕ W O) (none : HIx 3) 0 c)
    (d : Dev nD) (Wt : Waits sig (HIx 3)) (hWt : (↑Wt : Set (SemLoc sig × HIx 3)) ⊆ (O 0 d).2) :
    iprop((pdats ℕ UU ℕ W O 0 d).arrays ((pdats ℕ UU ℕ W O 0 d).arrAt · 0) ∗ owes (T d : Thread nD τ) (O 0 d).1 Wt)
      ⊢ (reg0 W O 𝒱₀ (none : HIx 3) (K (F := F)).L lv hw).pre d := by
  show _ ⊢ iprop((pdats ℕ UU ℕ W O 0 d).arrays ((pdats ℕ UU ℕ W O 0 d).arrAt · 0) ∗ (pdats ℕ UU ℕ W O 0 d).owesAt (none : HIx 3) 0)
  iintro ⟨Ha, HO⟩
  isplitl [Ha]; · iexact Ha
  unfold Pipeline.Dat.owesAt Pipeline.owesWithin
  iexists Wt; isplitr; · ipureintro; exact fun x hx => Or.inl (hWt hx)
  iexact HO
theorem post_elim0 (hw : ∀ c, (levAts (K (F := F)).L lv : sProp 𝕄) ⊢ Pipeline.cellsWaits (Pipeline.pin (pcfgs (F := F)) adm) (pdats ℕ UU ℕ W O) (none : HIx 3) 0 c)
    (d : Dev nD) :
    (reg0 W O 𝒱₀ (none : HIx 3) (K (F := F)).L lv hw).post d
      ⊢ iprop((pdats ℕ UU ℕ W O 0 d).arrays ((pdats ℕ UU ℕ W O 0 d).arrAt · cfg1.N)
          ∗ (∃ Wt' : Waits sig (HIx 3), ⌜(↑Wt' : Set (SemLoc sig × HIx 3)) ⊆ (O 0 d).2 ∪ cfg1.waitPairs (none : HIx 3)⌝ ∗ owes (T d : Thread nD τ) (O 0 d).1 Wt')) := by
  show iprop((pdats ℕ UU ℕ W O 0 d).arrays ((pdats ℕ UU ℕ W O 0 d).arrAt · cfg1.N) ∗ (pdats ℕ UU ℕ W O 0 d).owesAt (none : HIx 3) (Fin.last cfg1.N)) ⊢ _
  iintro ⟨Ha, HO⟩
  isplitl [Ha]; · iexact Ha
  unfold Pipeline.Dat.owesAt Pipeline.owesWithin
  icases HO with ⟨%W', %hW', HO⟩
  iexists W'; isplitr; · ipureintro; exact hW'
  iexact HO

-- a library lemma stated over the pinned configuration unifies with the printed one only when unification may unfold
-- plain definitions in a metavariable's type
set_option backward.isDefEq.respectTransparency.types false in
/-- REGION 0 in the whole program: from the boundary, its arrays at the entry contents `W 0`, the level facts, the
    pipeline's staging-cell ghost state and the core owing `(O 0 d).1`, the call runs on to its continuation from the
    boundary, the arrays at what the write-backs leave (read by the region's value lemmas), and the same debts, the
    wait pairs recorded meanwhile being the pipeline's own. -/
theorem wp_region0 (hO : ∀ p d g, (O p d).1 g none = 0) (hlv : (K (F := F)).Refines lv) (d : Dev nD) (Wt : Waits sig (HIx 3))
    (hWt : (↑Wt : Set (SemLoc sig × HIx 3)) ⊆ (O 0 d).2) {α : Type}
    (k : PUnit → Prog (TpuEff nD τ sig (Elt F) (SparseCore.Sig (ΛP (F := F)) 3) .tc) α) (Φ : α → sProp 𝕄) :
    iprop(boundary (T d : Thread nD τ)
        ∗ (pdats ℕ UU ℕ W O 0 d).arrays ((pdats ℕ UU ℕ W O 0 d).arrAt · 0)
        ∗ owes (T d : Thread nD τ) (O 0 d).1 Wt
        ∗ levAts (K (F := F)).L lv
        ∗ Pipeline.cellsGhost (Pipeline.pin (pcfgs (F := F)) adm) ER 0 d ∗ Pipeline.toksInit (Pipeline.pin (pcfgs (F := F)) adm) ER 0 d
        ∗ (iprop(boundary (T d : Thread nD τ)
              ∗ (pdats ℕ UU ℕ W O 0 d).arrays ((pdats ℕ UU ℕ W O 0 d).arrAt · cfg1.N)
              ∗ (∃ Wt' : Waits sig (HIx 3), ⌜(↑Wt' : Set (SemLoc sig × HIx 3)) ⊆ (O 0 d).2 ∪ cfg1.waitPairs (none : HIx 3)⌝ ∗ owes (T d : Thread nD τ) (O 0 d).1 Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 0)) ()) >>= k) Φ := by
  iintro ⟨Hb, Ha, HO, Hlev, Hg, Ht, Hk⟩
  iapply (wp_regionSeg W O lv (reg0 W O 𝒱₀ (none : HIx 3) (K (F := F)).L lv (hwaits0 W O lv hO hlv)) d k Φ)
  isplitl [Hb]; · iexact Hb
  isplitl [Ha HO]
  · iapply (pre_intro0 W O lv (hwaits0 W O lv hO hlv) d Wt hWt)
    isplitl [Ha]; · iexact Ha
    iexact HO
  isplitl [Hlev]; · iexact Hlev
  isplitl [Hg]; · iexact Hg
  isplitl [Ht]; · iexact Ht
  iintro ⟨Hb, Hpost⟩
  iapply Hk
  isplitl [Hb]; · iexact Hb
  iapply (post_elim0 W O lv (hwaits0 W O lv hO hlv) d)
  iexact Hpost

/-- The thread state region 1 is entered from, made of its arrays and the core's plain debts (the wait pairs recorded so
    far within the proof data's bound); and what it is left in, read back: the wait pairs recorded by then are the
    earlier ones and the pipeline's own. -/
theorem pre_intro1 (hw : ∀ c, (levAts (K (F := F)).L lv : sProp 𝕄) ⊢ Pipeline.cellsWaits (Pipeline.pin (pcfgs (F := F)) adm) (pdats ℕ UU ℕ W O) (none : HIx 3) 1 c)
    (d : Dev nD) (Wt : Waits sig (HIx 3)) (hWt : (↑Wt : Set (SemLoc sig × HIx 3)) ⊆ (O 1 d).2) :
    iprop((pdats ℕ UU ℕ W O 1 d).arrays ((pdats ℕ UU ℕ W O 1 d).arrAt · 0) ∗ owes (T d : Thread nD τ) (O 1 d).1 Wt)
      ⊢ (reg1 W O 𝒱₀ (none : HIx 3) (K (F := F)).L lv hw).pre d := by
  show _ ⊢ iprop((pdats ℕ UU ℕ W O 1 d).arrays ((pdats ℕ UU ℕ W O 1 d).arrAt · 0) ∗ (pdats ℕ UU ℕ W O 1 d).owesAt (none : HIx 3) 0)
  iintro ⟨Ha, HO⟩
  isplitl [Ha]; · iexact Ha
  unfold Pipeline.Dat.owesAt Pipeline.owesWithin
  iexists Wt; isplitr; · ipureintro; exact fun x hx => Or.inl (hWt hx)
  iexact HO
theorem post_elim1 (hw : ∀ c, (levAts (K (F := F)).L lv : sProp 𝕄) ⊢ Pipeline.cellsWaits (Pipeline.pin (pcfgs (F := F)) adm) (pdats ℕ UU ℕ W O) (none : HIx 3) 1 c)
    (d : Dev nD) :
    (reg1 W O 𝒱₀ (none : HIx 3) (K (F := F)).L lv hw).post d
      ⊢ iprop((pdats ℕ UU ℕ W O 1 d).arrays ((pdats ℕ UU ℕ W O 1 d).arrAt · cfg2.N)
          ∗ (∃ Wt' : Waits sig (HIx 3), ⌜(↑Wt' : Set (SemLoc sig × HIx 3)) ⊆ (O 1 d).2 ∪ cfg2.waitPairs (none : HIx 3)⌝ ∗ owes (T d : Thread nD τ) (O 1 d).1 Wt')) := by
  show iprop((pdats ℕ UU ℕ W O 1 d).arrays ((pdats ℕ UU ℕ W O 1 d).arrAt · cfg2.N) ∗ (pdats ℕ UU ℕ W O 1 d).owesAt (none : HIx 3) (Fin.last cfg2.N)) ⊢ _
  iintro ⟨Ha, HO⟩
  isplitl [Ha]; · iexact Ha
  unfold Pipeline.Dat.owesAt Pipeline.owesWithin
  icases HO with ⟨%W', %hW', HO⟩
  iexists W'; isplitr; · ipureintro; exact hW'
  iexact HO

-- a library lemma stated over the pinned configuration unifies with the printed one only when unification may unfold
-- plain definitions in a metavariable's type
set_option backward.isDefEq.respectTransparency.types false in
/-- REGION 1 in the whole program: from the boundary, its arrays at the entry contents `W 1`, the level facts, the
    pipeline's staging-cell ghost state and the core owing `(O 1 d).1`, the call runs on to its continuation from the
    boundary, the arrays at what the write-backs leave (read by the region's value lemmas), and the same debts, the
    wait pairs recorded meanwhile being the pipeline's own. -/
theorem wp_region1 (hO : ∀ p d g, (O p d).1 g none = 0) (hlv : (K (F := F)).Refines lv) (d : Dev nD) (Wt : Waits sig (HIx 3))
    (hWt : (↑Wt : Set (SemLoc sig × HIx 3)) ⊆ (O 1 d).2) {α : Type}
    (k : PUnit → Prog (TpuEff nD τ sig (Elt F) (SparseCore.Sig (ΛP (F := F)) 3) .tc) α) (Φ : α → sProp 𝕄) :
    iprop(boundary (T d : Thread nD τ)
        ∗ (pdats ℕ UU ℕ W O 1 d).arrays ((pdats ℕ UU ℕ W O 1 d).arrAt · 0)
        ∗ owes (T d : Thread nD τ) (O 1 d).1 Wt
        ∗ levAts (K (F := F)).L lv
        ∗ Pipeline.cellsGhost (Pipeline.pin (pcfgs (F := F)) adm) ER 1 d ∗ Pipeline.toksInit (Pipeline.pin (pcfgs (F := F)) adm) ER 1 d
        ∗ (iprop(boundary (T d : Thread nD τ)
              ∗ (pdats ℕ UU ℕ W O 1 d).arrays ((pdats ℕ UU ℕ W O 1 d).arrAt · cfg2.N)
              ∗ (∃ Wt' : Waits sig (HIx 3), ⌜(↑Wt' : Set (SemLoc sig × HIx 3)) ⊆ (O 1 d).2 ∪ cfg2.waitPairs (none : HIx 3)⌝ ∗ owes (T d : Thread nD τ) (O 1 d).1 Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 1)) ()) >>= k) Φ := by
  iintro ⟨Hb, Ha, HO, Hlev, Hg, Ht, Hk⟩
  iapply (wp_regionSeg W O lv (reg1 W O 𝒱₀ (none : HIx 3) (K (F := F)).L lv (hwaits1 W O lv hO hlv)) d k Φ)
  isplitl [Hb]; · iexact Hb
  isplitl [Ha HO]
  · iapply (pre_intro1 W O lv (hwaits1 W O lv hO hlv) d Wt hWt)
    isplitl [Ha]; · iexact Ha
    iexact HO
  isplitl [Hlev]; · iexact Hlev
  isplitl [Hg]; · iexact Hg
  isplitl [Ht]; · iexact Ht
  iintro ⟨Hb, Hpost⟩
  iapply Hk
  isplitl [Hb]; · iexact Hb
  iapply (post_elim1 W O lv (hwaits1 W O lv hO hlv) d)
  iexact Hpost

/-- The thread state region 2 is entered from, made of its arrays and the core's plain debts (the wait pairs recorded so
    far within the proof data's bound); and what it is left in, read back: the wait pairs recorded by then are the
    earlier ones and the pipeline's own. -/
theorem pre_intro2 (hw : ∀ c, (levAts (K (F := F)).L lv : sProp 𝕄) ⊢ Pipeline.cellsWaits (Pipeline.pin (pcfgs (F := F)) adm) (pdats ℕ UU ℕ W O) (none : HIx 3) 2 c)
    (d : Dev nD) (Wt : Waits sig (HIx 3)) (hWt : (↑Wt : Set (SemLoc sig × HIx 3)) ⊆ (O 2 d).2) :
    iprop((pdats ℕ UU ℕ W O 2 d).arrays ((pdats ℕ UU ℕ W O 2 d).arrAt · 0) ∗ owes (T d : Thread nD τ) (O 2 d).1 Wt)
      ⊢ (reg2 W O 𝒱₀ (none : HIx 3) (K (F := F)).L lv hw).pre d := by
  show _ ⊢ iprop((pdats ℕ UU ℕ W O 2 d).arrays ((pdats ℕ UU ℕ W O 2 d).arrAt · 0) ∗ (pdats ℕ UU ℕ W O 2 d).owesAt (none : HIx 3) 0)
  iintro ⟨Ha, HO⟩
  isplitl [Ha]; · iexact Ha
  unfold Pipeline.Dat.owesAt Pipeline.owesWithin
  iexists Wt; isplitr; · ipureintro; exact fun x hx => Or.inl (hWt hx)
  iexact HO
theorem post_elim2 (hw : ∀ c, (levAts (K (F := F)).L lv : sProp 𝕄) ⊢ Pipeline.cellsWaits (Pipeline.pin (pcfgs (F := F)) adm) (pdats ℕ UU ℕ W O) (none : HIx 3) 2 c)
    (d : Dev nD) :
    (reg2 W O 𝒱₀ (none : HIx 3) (K (F := F)).L lv hw).post d
      ⊢ iprop((pdats ℕ UU ℕ W O 2 d).arrays ((pdats ℕ UU ℕ W O 2 d).arrAt · cfg4.N)
          ∗ (∃ Wt' : Waits sig (HIx 3), ⌜(↑Wt' : Set (SemLoc sig × HIx 3)) ⊆ (O 2 d).2 ∪ cfg4.waitPairs (none : HIx 3)⌝ ∗ owes (T d : Thread nD τ) (O 2 d).1 Wt')) := by
  show iprop((pdats ℕ UU ℕ W O 2 d).arrays ((pdats ℕ UU ℕ W O 2 d).arrAt · cfg4.N) ∗ (pdats ℕ UU ℕ W O 2 d).owesAt (none : HIx 3) (Fin.last cfg4.N)) ⊢ _
  iintro ⟨Ha, HO⟩
  isplitl [Ha]; · iexact Ha
  unfold Pipeline.Dat.owesAt Pipeline.owesWithin
  icases HO with ⟨%W', %hW', HO⟩
  iexists W'; isplitr; · ipureintro; exact hW'
  iexact HO

-- a library lemma stated over the pinned configuration unifies with the printed one only when unification may unfold
-- plain definitions in a metavariable's type
set_option backward.isDefEq.respectTransparency.types false in
/-- REGION 2 in the whole program: from the boundary, its arrays at the entry contents `W 2`, the level facts, the
    pipeline's staging-cell ghost state and the core owing `(O 2 d).1`, the call runs on to its continuation from the
    boundary, the arrays at what the write-backs leave (read by the region's value lemmas), and the same debts, the
    wait pairs recorded meanwhile being the pipeline's own. -/
theorem wp_region2 (hO : ∀ p d g, (O p d).1 g none = 0) (hlv : (K (F := F)).Refines lv) (d : Dev nD) (Wt : Waits sig (HIx 3))
    (hWt : (↑Wt : Set (SemLoc sig × HIx 3)) ⊆ (O 2 d).2) {α : Type}
    (k : PUnit → Prog (TpuEff nD τ sig (Elt F) (SparseCore.Sig (ΛP (F := F)) 3) .tc) α) (Φ : α → sProp 𝕄) :
    iprop(boundary (T d : Thread nD τ)
        ∗ (pdats ℕ UU ℕ W O 2 d).arrays ((pdats ℕ UU ℕ W O 2 d).arrAt · 0)
        ∗ owes (T d : Thread nD τ) (O 2 d).1 Wt
        ∗ levAts (K (F := F)).L lv
        ∗ Pipeline.cellsGhost (Pipeline.pin (pcfgs (F := F)) adm) ER 2 d ∗ Pipeline.toksInit (Pipeline.pin (pcfgs (F := F)) adm) ER 2 d
        ∗ (iprop(boundary (T d : Thread nD τ)
              ∗ (pdats ℕ UU ℕ W O 2 d).arrays ((pdats ℕ UU ℕ W O 2 d).arrAt · cfg4.N)
              ∗ (∃ Wt' : Waits sig (HIx 3), ⌜(↑Wt' : Set (SemLoc sig × HIx 3)) ⊆ (O 2 d).2 ∪ cfg4.waitPairs (none : HIx 3)⌝ ∗ owes (T d : Thread nD τ) (O 2 d).1 Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 2)) ()) >>= k) Φ := by
  iintro ⟨Hb, Ha, HO, Hlev, Hg, Ht, Hk⟩
  iapply (wp_regionSeg W O lv (reg2 W O 𝒱₀ (none : HIx 3) (K (F := F)).L lv (hwaits2 W O lv hO hlv)) d k Φ)
  isplitl [Hb]; · iexact Hb
  isplitl [Ha HO]
  · iapply (pre_intro2 W O lv (hwaits2 W O lv hO hlv) d Wt hWt)
    isplitl [Ha]; · iexact Ha
    iexact HO
  isplitl [Hlev]; · iexact Hlev
  isplitl [Hg]; · iexact Hg
  isplitl [Ht]; · iexact Ht
  iintro ⟨Hb, Hpost⟩
  iapply Hk
  isplitl [Hb]; · iexact Hb
  iapply (post_elim2 W O lv (hwaits2 W O lv hO hlv) d)
  iexact Hpost

/-- The thread state region 3 is entered from, made of its arrays and the core's plain debts (the wait pairs recorded so
    far within the proof data's bound); and what it is left in, read back: the wait pairs recorded by then are the
    earlier ones and the pipeline's own. -/
theorem pre_intro3 (hw : ∀ c, (levAts (K (F := F)).L lv : sProp 𝕄) ⊢ Pipeline.cellsWaits (Pipeline.pin (pcfgs (F := F)) adm) (pdats ℕ UU ℕ W O) (none : HIx 3) 3 c)
    (d : Dev nD) (Wt : Waits sig (HIx 3)) (hWt : (↑Wt : Set (SemLoc sig × HIx 3)) ⊆ (O 3 d).2) :
    iprop((pdats ℕ UU ℕ W O 3 d).arrays ((pdats ℕ UU ℕ W O 3 d).arrAt · 0) ∗ owes (T d : Thread nD τ) (O 3 d).1 Wt)
      ⊢ (reg3 W O 𝒱₀ (none : HIx 3) (K (F := F)).L lv hw).pre d := by
  show _ ⊢ iprop((pdats ℕ UU ℕ W O 3 d).arrays ((pdats ℕ UU ℕ W O 3 d).arrAt · 0) ∗ (pdats ℕ UU ℕ W O 3 d).owesAt (none : HIx 3) 0)
  iintro ⟨Ha, HO⟩
  isplitl [Ha]; · iexact Ha
  unfold Pipeline.Dat.owesAt Pipeline.owesWithin
  iexists Wt; isplitr; · ipureintro; exact fun x hx => Or.inl (hWt hx)
  iexact HO
theorem post_elim3 (hw : ∀ c, (levAts (K (F := F)).L lv : sProp 𝕄) ⊢ Pipeline.cellsWaits (Pipeline.pin (pcfgs (F := F)) adm) (pdats ℕ UU ℕ W O) (none : HIx 3) 3 c)
    (d : Dev nD) :
    (reg3 W O 𝒱₀ (none : HIx 3) (K (F := F)).L lv hw).post d
      ⊢ iprop((pdats ℕ UU ℕ W O 3 d).arrays ((pdats ℕ UU ℕ W O 3 d).arrAt · cfg6.N)
          ∗ (∃ Wt' : Waits sig (HIx 3), ⌜(↑Wt' : Set (SemLoc sig × HIx 3)) ⊆ (O 3 d).2 ∪ cfg6.waitPairs (none : HIx 3)⌝ ∗ owes (T d : Thread nD τ) (O 3 d).1 Wt')) := by
  show iprop((pdats ℕ UU ℕ W O 3 d).arrays ((pdats ℕ UU ℕ W O 3 d).arrAt · cfg6.N) ∗ (pdats ℕ UU ℕ W O 3 d).owesAt (none : HIx 3) (Fin.last cfg6.N)) ⊢ _
  iintro ⟨Ha, HO⟩
  isplitl [Ha]; · iexact Ha
  unfold Pipeline.Dat.owesAt Pipeline.owesWithin
  icases HO with ⟨%W', %hW', HO⟩
  iexists W'; isplitr; · ipureintro; exact hW'
  iexact HO

-- a library lemma stated over the pinned configuration unifies with the printed one only when unification may unfold
-- plain definitions in a metavariable's type
set_option backward.isDefEq.respectTransparency.types false in
/-- REGION 3 in the whole program: from the boundary, its arrays at the entry contents `W 3`, the level facts, the
    pipeline's staging-cell ghost state and the core owing `(O 3 d).1`, the call runs on to its continuation from the
    boundary, the arrays at what the write-backs leave (read by the region's value lemmas), and the same debts, the
    wait pairs recorded meanwhile being the pipeline's own. -/
theorem wp_region3 (hO : ∀ p d g, (O p d).1 g none = 0) (hlv : (K (F := F)).Refines lv) (d : Dev nD) (Wt : Waits sig (HIx 3))
    (hWt : (↑Wt : Set (SemLoc sig × HIx 3)) ⊆ (O 3 d).2) {α : Type}
    (k : PUnit → Prog (TpuEff nD τ sig (Elt F) (SparseCore.Sig (ΛP (F := F)) 3) .tc) α) (Φ : α → sProp 𝕄) :
    iprop(boundary (T d : Thread nD τ)
        ∗ (pdats ℕ UU ℕ W O 3 d).arrays ((pdats ℕ UU ℕ W O 3 d).arrAt · 0)
        ∗ owes (T d : Thread nD τ) (O 3 d).1 Wt
        ∗ levAts (K (F := F)).L lv
        ∗ Pipeline.cellsGhost (Pipeline.pin (pcfgs (F := F)) adm) ER 3 d ∗ Pipeline.toksInit (Pipeline.pin (pcfgs (F := F)) adm) ER 3 d
        ∗ (iprop(boundary (T d : Thread nD τ)
              ∗ (pdats ℕ UU ℕ W O 3 d).arrays ((pdats ℕ UU ℕ W O 3 d).arrAt · cfg6.N)
              ∗ (∃ Wt' : Waits sig (HIx 3), ⌜(↑Wt' : Set (SemLoc sig × HIx 3)) ⊆ (O 3 d).2 ∪ cfg6.waitPairs (none : HIx 3)⌝ ∗ owes (T d : Thread nD τ) (O 3 d).1 Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 3)) ()) >>= k) Φ := by
  iintro ⟨Hb, Ha, HO, Hlev, Hg, Ht, Hk⟩
  iapply (wp_regionSeg W O lv (reg3 W O 𝒱₀ (none : HIx 3) (K (F := F)).L lv (hwaits3 W O lv hO hlv)) d k Φ)
  isplitl [Hb]; · iexact Hb
  isplitl [Ha HO]
  · iapply (pre_intro3 W O lv (hwaits3 W O lv hO hlv) d Wt hWt)
    isplitl [Ha]; · iexact Ha
    iexact HO
  isplitl [Hlev]; · iexact Hlev
  isplitl [Hg]; · iexact Hg
  isplitl [Ht]; · iexact Ht
  iintro ⟨Hb, Hpost⟩
  iapply Hk
  isplitl [Hb]; · iexact Hb
  iapply (post_elim3 W O lv (hwaits3 W O lv hO hlv) d)
  iexact Hpost

end Lift

end Cert.Proof.KB

end
-- ==== Proof.TcHeldK.lean ====
import proofs.«205366_g3083786518796_cont_9to1_852_38_alg».proof.Proof.TcLiftK
import proofs.«205366_g3083786518796_cont_9to1_852_38_alg».proof.Proof.TcZValueK
import proofs.«205366_g3083786518796_cont_9to1_852_38_alg».proof.Proof.TcFused1ValueK
import proofs.«205366_g3083786518796_cont_9to1_852_38_alg».proof.Proof.TcFused2ValueK
import proofs.«205366_g3083786518796_cont_9to1_852_38_alg».proof.Proof.TcOutValueK
import Idealize.ShloMosaic.Lib.Pipeline.RegionsLoop

set_option maxRecDepth 16384

noncomputable section

/-!
# The regions over the thread state "every unscoped array of the TensorCore at a valuation"

Between the steps of the program the TensorCore holds all its unscoped arrays at one valuation.  A region takes its
windows' arrays out of that set, runs, and puts them back: the outputs at the region's whole-array functions of the
inputs as the valuation had them, everything else unchanged.
-/

namespace Cert.Proof.KB

open Cert.Kernel Cert.Kernel.Gen Cert.Kernel.Regions

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.StableHlo (held)

variable {F : FTy → Type} [FloatOps F]

local notation "𝕄" => MT nD τ sig (HIx 3) (Elt F) ℕ UU ℕ

/-- The TensorCore's unscoped arrays: the program's 37 values. -/
def Sall : Finset (DevRef τ sig) := (Finset.univ.filter fun b : Ref sig .tc => ¬ b.isScoped).image (Proc.devRef .tc)

theorem mem_Sall {b : Ref sig .tc} (h : b.isScoped = false) : Proc.devRef .tc b ∈ (Sall : Finset (DevRef τ sig)) :=
  Finset.mem_image.mpr ⟨b, Finset.mem_filter.mpr ⟨Finset.mem_univ _, by rw [h]; exact Bool.false_ne_true⟩, rfl⟩

/-- The core's unscoped buffers at a valuation are that set held at it. -/
theorem unscopedBufs_Sall (d : Dev nD) (V : Valuation τ sig (Elt F)) :
    (unscopedBufs d (fun b => V (Proc.devRef .tc b)) : sProp 𝕄) = held (T d : Thread nD τ) Sall V := by
  unfold unscopedBufs held Sall
  rw [SparseCore.bigSep_image_of_injOn (fun a _ b _ h => Proc.devRef_injective _ h)]

/-- A valuation read at the TensorCore's references; one debt and one set of recorded wait pairs for every core and region. -/
abbrev Wf (V : Valuation τ sig (Elt F)) : Fin 4 → (c : Dev nD) → (b : Ref sig .tc) → Buf (Elt F) ((c : Thread nD τ).loc b) :=
  fun _ _ b => V (Proc.devRef .tc b)
abbrev Of (O : CellTallies nD τ sig (HIx 3)) (Wt : Waits sig (HIx 3)) : Fin 4 → Dev nD → CellTallies nD τ sig (HIx 3) × Set (SemLoc sig × HIx 3) :=
  fun _ _ => (O, (↑Wt : Set (SemLoc sig × HIx 3)))

/-! ## Region 0 -/

/-- The valuation after region 0: its output array at the region's function of the inputs, every other buffer as it was. -/
def V0' (V : Valuation τ sig (Elt F)) : Valuation τ sig (Elt F) :=
  Function.update (V) (Proc.devRef .tc main_v9) (Z0 (V (Proc.devRef .tc main_arg0)) (V (Proc.devRef .tc main_arg2)) (V (Proc.devRef .tc main_arg4)))

theorem V0'_out3 (V : Valuation τ sig (Elt F)) : V0' V (Proc.devRef .tc main_v9) = Z0 (V (Proc.devRef .tc main_arg0)) (V (Proc.devRef .tc main_arg2)) (V (Proc.devRef .tc main_arg4)) :=
  Function.update_self _ _ _
theorem V0'_of_ne (V : Valuation τ sig (Elt F)) (b : DevRef τ sig) (h3 : b ≠ Proc.devRef .tc main_v9) : V0' V b = V b :=
  Function.update_of_ne h3 _ _

-- a library lemma stated over the pinned configuration unifies with the printed one only when unification may unfold
-- plain definitions in a metavariable's type
set_option backward.isDefEq.respectTransparency.types false in
/-- REGION 0 over the thread state "every unscoped array at a valuation": the region's arrays are split out of the
    held set at entry and put back at exit at the updated valuation; the other arrays ride along untouched. -/
theorem wp_region_held0 (V : Valuation τ sig (Elt F)) (O : CellTallies nD τ sig (HIx 3)) (hO : ∀ g, O g none = 0)
    (lv : GSem nD τ sig → HIx 3 → ℕ) (hlv : (K (F := F)).Refines lv) (d : Dev nD) (Wt : Waits sig (HIx 3)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall V ∗ owes (T d : Thread nD τ) O Wt
        ∗ levAts (K (F := F)).L lv
        ∗ Pipeline.cellsGhost (Pipeline.pin (pcfgs (F := F)) adm) ER 0 d ∗ Pipeline.toksInit (Pipeline.pin (pcfgs (F := F)) adm) ER 0 d
        ∗ (iprop(boundary (T d : Thread nD τ) ∗ held (T d : Thread nD τ) Sall (V0' V) ∗ (∃ Wt' : Waits sig (HIx 3), ⌜∀ p ∈ Wt', p ∈ Wt ∨ p.2 = none⌝ ∗ owes (T d : Thread nD τ) O Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 0)) ()) >>= k) Φ := by
  have hsplit := Pipeline.arrays_of_unscopedBufs (p := 0) (pcfgs (F := F)) adm (pdats ℕ UU ℕ (Wf V) (Of O Wt)) launch1.win launch1.arr_whole d
    ((pdats ℕ UU ℕ (Wf V) (Of O Wt) 0 d).share_full fun _ => rfl) (fun b => V (Proc.devRef .tc b)) fun _ => rfl
  rw [unscopedBufs_Sall] at hsplit
  have hF : ∀ w, (pdats ℕ UU ℕ (Wf V) (Of O Wt) 0 d).arrAt w cfg1.N = V0' V (Proc.devRef .tc (Pipeline.arrRef spec1 w)) := fun w => by
    match w with
    | ⟨0, _⟩ => exact (kept0 (Wf V 0) (O, (↑Wt : Set (SemLoc sig × HIx 3))) d 0 rfl _).trans (V0'_of_ne V _ (fun h => absurd (Proc.devRef_injective _ h) (by decide) : (Proc.devRef .tc main_arg0 : DevRef τ sig) ≠ Proc.devRef .tc main_v9)).symm
    | ⟨1, _⟩ => exact (kept0 (Wf V 0) (O, (↑Wt : Set (SemLoc sig × HIx 3))) d 1 rfl _).trans (V0'_of_ne V _ (fun h => absurd (Proc.devRef_injective _ h) (by decide) : (Proc.devRef .tc main_arg2 : DevRef τ sig) ≠ Proc.devRef .tc main_v9)).symm
    | ⟨2, _⟩ => exact (kept0 (Wf V 0) (O, (↑Wt : Set (SemLoc sig × HIx 3))) d 2 rfl _).trans (V0'_of_ne V _ (fun h => absurd (Proc.devRef_injective _ h) (by decide) : (Proc.devRef .tc main_arg4 : DevRef τ sig) ≠ Proc.devRef .tc main_v9)).symm
    | ⟨3, _⟩ => exact (final0 (Wf V 0) (O, (↑Wt : Set (SemLoc sig × HIx 3))) d).trans (V0'_out3 V).symm
  have hrest : ∀ b, b ∉ Finset.univ.image (Pipeline.arrRef spec1) → V0' V (Proc.devRef .tc b) = V (Proc.devRef .tc b) :=
    fun b hb => V0'_of_ne V _ (fun h => hb (by rw [Proc.devRef_injective _ h]; exact Finset.mem_image.mpr ⟨3, Finset.mem_univ _, rfl⟩))
  have hjoin := Pipeline.unscopedBufs_of_arrays (p := 0) (pcfgs (F := F)) adm (Ix := HIx 3) (Name := ℕ) (U := UU) (Lvl := ℕ)
    launch1.win launch1.arr_whole d (pdats ℕ UU ℕ (Wf V) (Of O Wt)) ((pdats ℕ UU ℕ (Wf V) (Of O Wt) 0 d).share_full fun _ => rfl)
    (fun b => V (Proc.devRef .tc b)) (fun b => V0' V (Proc.devRef .tc b)) ((pdats ℕ UU ℕ (Wf V) (Of O Wt) 0 d).arrAt · cfg1.N) hF hrest
  rw [unscopedBufs_Sall] at hjoin
  iintro ⟨Hb, Hh, HO, Hlev, Hg, Ht, Hk⟩
  ihave H := hsplit $$ Hh
  icases H with ⟨Ha, Hrest⟩
  iapply (wp_region0 (Wf V) (Of O Wt) lv (fun _ _ g => hO g) hlv d Wt (fun _ h => h) k Φ)
  isplitl [Hb]; · iexact Hb
  isplitl [Ha]; · iexact Ha
  isplitl [HO]; · iexact HO
  isplitl [Hlev]; · iexact Hlev
  isplitl [Hg]; · iexact Hg
  isplitl [Ht]; · iexact Ht
  iintro ⟨Hb, Ha, HO⟩
  iapply Hk
  isplitl [Hb]; · iexact Hb
  isplitl [Ha Hrest]
  · iapply hjoin
    isplitl [Ha]; · iexact Ha
    iexact Hrest
  icases HO with ⟨%W', %hW', HO⟩
  iexists W'; isplitr
  · ipureintro
    exact fun p hp => (hW' (Finset.mem_coe.mpr hp)).imp Finset.mem_coe.mp (fun ⟨_, _, e⟩ => congrArg Prod.snd e)
  iexact HO

/-! ## Region 1 -/

/-- The valuation after region 1: its output arrays at the region's functions of the inputs, every other buffer as it was. -/
def V1' (V : Valuation τ sig (Elt F)) : Valuation τ sig (Elt F) :=
  Function.update (Function.update (V) (Proc.devRef .tc main_v11_0) (H1 (V (Proc.devRef .tc main_v9)) (V (Proc.devRef .tc main_v8)) (V (Proc.devRef .tc main_arg3)) (V (Proc.devRef .tc main_v10)))) (Proc.devRef .tc main_v11_1) (ZN1 (V (Proc.devRef .tc main_v9)) (V (Proc.devRef .tc main_v8)) (V (Proc.devRef .tc main_arg3)) (V (Proc.devRef .tc main_v10)) (V (Proc.devRef .tc main_arg6)) (V (Proc.devRef .tc main_arg8)))

theorem V1'_out6 (V : Valuation τ sig (Elt F)) : V1' V (Proc.devRef .tc main_v11_0) = H1 (V (Proc.devRef .tc main_v9)) (V (Proc.devRef .tc main_v8)) (V (Proc.devRef .tc main_arg3)) (V (Proc.devRef .tc main_v10)) :=
  (Function.update_of_ne (fun h => absurd (Proc.devRef_injective _ h) (by decide) : (Proc.devRef .tc main_v11_0 : DevRef τ sig) ≠ Proc.devRef .tc main_v11_1) _ _).trans (Function.update_self _ _ _)
theorem V1'_out7 (V : Valuation τ sig (Elt F)) : V1' V (Proc.devRef .tc main_v11_1) = ZN1 (V (Proc.devRef .tc main_v9)) (V (Proc.devRef .tc main_v8)) (V (Proc.devRef .tc main_arg3)) (V (Proc.devRef .tc main_v10)) (V (Proc.devRef .tc main_arg6)) (V (Proc.devRef .tc main_arg8)) :=
  Function.update_self _ _ _
theorem V1'_of_ne (V : Valuation τ sig (Elt F)) (b : DevRef τ sig) (h6 : b ≠ Proc.devRef .tc main_v11_0) (h7 : b ≠ Proc.devRef .tc main_v11_1) : V1' V b = V b :=
  (Function.update_of_ne h7 _ _).trans (Function.update_of_ne h6 _ _)

-- a library lemma stated over the pinned configuration unifies with the printed one only when unification may unfold
-- plain definitions in a metavariable's type
set_option backward.isDefEq.respectTransparency.types false in
/-- REGION 1 over the thread state "every unscoped array at a valuation": the region's arrays are split out of the
    held set at entry and put back at exit at the updated valuation; the other arrays ride along untouched. -/
theorem wp_region_held1 (V : Valuation τ sig (Elt F)) (O : CellTallies nD τ sig (HIx 3)) (hO : ∀ g, O g none = 0)
    (lv : GSem nD τ sig → HIx 3 → ℕ) (hlv : (K (F := F)).Refines lv) (d : Dev nD) (Wt : Waits sig (HIx 3)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall V ∗ owes (T d : Thread nD τ) O Wt
        ∗ levAts (K (F := F)).L lv
        ∗ Pipeline.cellsGhost (Pipeline.pin (pcfgs (F := F)) adm) ER 1 d ∗ Pipeline.toksInit (Pipeline.pin (pcfgs (F := F)) adm) ER 1 d
        ∗ (iprop(boundary (T d : Thread nD τ) ∗ held (T d : Thread nD τ) Sall (V1' V) ∗ (∃ Wt' : Waits sig (HIx 3), ⌜∀ p ∈ Wt', p ∈ Wt ∨ p.2 = none⌝ ∗ owes (T d : Thread nD τ) O Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 1)) ()) >>= k) Φ := by
  have hsplit := Pipeline.arrays_of_unscopedBufs (p := 1) (pcfgs (F := F)) adm (pdats ℕ UU ℕ (Wf V) (Of O Wt)) launch2.win launch2.arr_whole d
    ((pdats ℕ UU ℕ (Wf V) (Of O Wt) 1 d).share_full fun _ => rfl) (fun b => V (Proc.devRef .tc b)) fun _ => rfl
  rw [unscopedBufs_Sall] at hsplit
  have hF : ∀ w, (pdats ℕ UU ℕ (Wf V) (Of O Wt) 1 d).arrAt w cfg2.N = V1' V (Proc.devRef .tc (Pipeline.arrRef spec2 w)) := fun w => by
    match w with
    | ⟨0, _⟩ => exact (kept1 (Wf V 1) (O, (↑Wt : Set (SemLoc sig × HIx 3))) d 0 rfl _).trans (V1'_of_ne V _ (fun h => absurd (Proc.devRef_injective _ h) (by decide) : (Proc.devRef .tc main_v9 : DevRef τ sig) ≠ Proc.devRef .tc main_v11_0) (fun h => absurd (Proc.devRef_injective _ h) (by decide) : (Proc.devRef .tc main_v9 : DevRef τ sig) ≠ Proc.devRef .tc main_v11_1)).symm
    | ⟨1, _⟩ => exact (kept1 (Wf V 1) (O, (↑Wt : Set (SemLoc sig × HIx 3))) d 1 rfl _).trans (V1'_of_ne V _ (fun h => absurd (Proc.devRef_injective _ h) (by decide) : (Proc.devRef .tc main_v8 : DevRef τ sig) ≠ Proc.devRef .tc main_v11_0) (fun h => absurd (Proc.devRef_injective _ h) (by decide) : (Proc.devRef .tc main_v8 : DevRef τ sig) ≠ Proc.devRef .tc main_v11_1)).symm
    | ⟨2, _⟩ => exact (kept1 (Wf V 1) (O, (↑Wt : Set (SemLoc sig × HIx 3))) d 2 rfl _).trans (V1'_of_ne V _ (fun h => absurd (Proc.devRef_injective _ h) (by decide) : (Proc.devRef .tc main_arg3 : DevRef τ sig) ≠ Proc.devRef .tc main_v11_0) (fun h => absurd (Proc.devRef_injective _ h) (by decide) : (Proc.devRef .tc main_arg3 : DevRef τ sig) ≠ Proc.devRef .tc main_v11_1)).symm
    | ⟨3, _⟩ => exact (kept1 (Wf V 1) (O, (↑Wt : Set (SemLoc sig × HIx 3))) d 3 rfl _).trans (V1'_of_ne V _ (fun h => absurd (Proc.devRef_injective _ h) (by decide) : (Proc.devRef .tc main_v10 : DevRef τ sig) ≠ Proc.devRef .tc main_v11_0) (fun h => absurd (Proc.devRef_injective _ h) (by decide) : (Proc.devRef .tc main_v10 : DevRef τ sig) ≠ Proc.devRef .tc main_v11_1)).symm
    | ⟨4, _⟩ => exact (kept1 (Wf V 1) (O, (↑Wt : Set (SemLoc sig × HIx 3))) d 4 rfl _).trans (V1'_of_ne V _ (fun h => absurd (Proc.devRef_injective _ h) (by decide) : (Proc.devRef .tc main_arg6 : DevRef τ sig) ≠ Proc.devRef .tc main_v11_0) (fun h => absurd (Proc.devRef_injective _ h) (by decide) : (Proc.devRef .tc main_arg6 : DevRef τ sig) ≠ Proc.devRef .tc main_v11_1)).symm
    | ⟨5, _⟩ => exact (kept1 (Wf V 1) (O, (↑Wt : Set (SemLoc sig × HIx 3))) d 5 rfl _).trans (V1'_of_ne V _ (fun h => absurd (Proc.devRef_injective _ h) (by decide) : (Proc.devRef .tc main_arg8 : DevRef τ sig) ≠ Proc.devRef .tc main_v11_0) (fun h => absurd (Proc.devRef_injective _ h) (by decide) : (Proc.devRef .tc main_arg8 : DevRef τ sig) ≠ Proc.devRef .tc main_v11_1)).symm
    | ⟨6, _⟩ => exact (final1_6 (Wf V 1) (O, (↑Wt : Set (SemLoc sig × HIx 3))) d).trans (V1'_out6 V).symm
    | ⟨7, _⟩ => exact (final1_7 (Wf V 1) (O, (↑Wt : Set (SemLoc sig × HIx 3))) d).trans (V1'_out7 V).symm
  have hrest : ∀ b, b ∉ Finset.univ.image (Pipeline.arrRef spec2) → V1' V (Proc.devRef .tc b) = V (Proc.devRef .tc b) :=
    fun b hb => V1'_of_ne V _ (fun h => hb (by rw [Proc.devRef_injective _ h]; exact Finset.mem_image.mpr ⟨6, Finset.mem_univ _, rfl⟩)) (fun h => hb (by rw [Proc.devRef_injective _ h]; exact Finset.mem_image.mpr ⟨7, Finset.mem_univ _, rfl⟩))
  have hjoin := Pipeline.unscopedBufs_of_arrays (p := 1) (pcfgs (F := F)) adm (Ix := HIx 3) (Name := ℕ) (U := UU) (Lvl := ℕ)
    launch2.win launch2.arr_whole d (pdats ℕ UU ℕ (Wf V) (Of O Wt)) ((pdats ℕ UU ℕ (Wf V) (Of O Wt) 1 d).share_full fun _ => rfl)
    (fun b => V (Proc.devRef .tc b)) (fun b => V1' V (Proc.devRef .tc b)) ((pdats ℕ UU ℕ (Wf V) (Of O Wt) 1 d).arrAt · cfg2.N) hF hrest
  rw [unscopedBufs_Sall] at hjoin
  iintro ⟨Hb, Hh, HO, Hlev, Hg, Ht, Hk⟩
  ihave H := hsplit $$ Hh
  icases H with ⟨Ha, Hrest⟩
  iapply (wp_region1 (Wf V) (Of O Wt) lv (fun _ _ g => hO g) hlv d Wt (fun _ h => h) k Φ)
  isplitl [Hb]; · iexact Hb
  isplitl [Ha]; · iexact Ha
  isplitl [HO]; · iexact HO
  isplitl [Hlev]; · iexact Hlev
  isplitl [Hg]; · iexact Hg
  isplitl [Ht]; · iexact Ht
  iintro ⟨Hb, Ha, HO⟩
  iapply Hk
  isplitl [Hb]; · iexact Hb
  isplitl [Ha Hrest]
  · iapply hjoin
    isplitl [Ha]; · iexact Ha
    iexact Hrest
  icases HO with ⟨%W', %hW', HO⟩
  iexists W'; isplitr
  · ipureintro
    exact fun p hp => (hW' (Finset.mem_coe.mpr hp)).imp Finset.mem_coe.mp (fun ⟨_, _, e⟩ => congrArg Prod.snd e)
  iexact HO

/-! ## Region 2 -/

/-- The valuation after region 2: its output arrays at the region's functions of the inputs, every other buffer as it was. -/
def V2' (V : Valuation τ sig (Elt F)) : Valuation τ sig (Elt F) :=
  Function.update (Function.update (V) (Proc.devRef .tc main_v14_0) (H2 (V (Proc.devRef .tc main_v11_1)) (V (Proc.devRef .tc main_v12)) (V (Proc.devRef .tc main_arg7)) (V (Proc.devRef .tc main_v13)))) (Proc.devRef .tc main_v14_1) (ZN2 (V (Proc.devRef .tc main_v11_1)) (V (Proc.devRef .tc main_v12)) (V (Proc.devRef .tc main_arg7)) (V (Proc.devRef .tc main_v13)) (V (Proc.devRef .tc main_arg10)) (V (Proc.devRef .tc main_arg12)))

theorem V2'_out6 (V : Valuation τ sig (Elt F)) : V2' V (Proc.devRef .tc main_v14_0) = H2 (V (Proc.devRef .tc main_v11_1)) (V (Proc.devRef .tc main_v12)) (V (Proc.devRef .tc main_arg7)) (V (Proc.devRef .tc main_v13)) :=
  (Function.update_of_ne (fun h => absurd (Proc.devRef_injective _ h) (by decide) : (Proc.devRef .tc main_v14_0 : DevRef τ sig) ≠ Proc.devRef .tc main_v14_1) _ _).trans (Function.update_self _ _ _)
theorem V2'_out7 (V : Valuation τ sig (Elt F)) : V2' V (Proc.devRef .tc main_v14_1) = ZN2 (V (Proc.devRef .tc main_v11_1)) (V (Proc.devRef .tc main_v12)) (V (Proc.devRef .tc main_arg7)) (V (Proc.devRef .tc main_v13)) (V (Proc.devRef .tc main_arg10)) (V (Proc.devRef .tc main_arg12)) :=
  Function.update_self _ _ _
theorem V2'_of_ne (V : Valuation τ sig (Elt F)) (b : DevRef τ sig) (h6 : b ≠ Proc.devRef .tc main_v14_0) (h7 : b ≠ Proc.devRef .tc main_v14_1) : V2' V b = V b :=
  (Function.update_of_ne h7 _ _).trans (Function.update_of_ne h6 _ _)

-- a library lemma stated over the pinned configuration unifies with the printed one only when unification may unfold
-- plain definitions in a metavariable's type
set_option backward.isDefEq.respectTransparency.types false in
/-- REGION 2 over the thread state "every unscoped array at a valuation": the region's arrays are split out of the
    held set at entry and put back at exit at the updated valuation; the other arrays ride along untouched. -/
theorem wp_region_held2 (V : Valuation τ sig (Elt F)) (O : CellTallies nD τ sig (HIx 3)) (hO : ∀ g, O g none = 0)
    (lv : GSem nD τ sig → HIx 3 → ℕ) (hlv : (K (F := F)).Refines lv) (d : Dev nD) (Wt : Waits sig (HIx 3)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall V ∗ owes (T d : Thread nD τ) O Wt
        ∗ levAts (K (F := F)).L lv
        ∗ Pipeline.cellsGhost (Pipeline.pin (pcfgs (F := F)) adm) ER 2 d ∗ Pipeline.toksInit (Pipeline.pin (pcfgs (F := F)) adm) ER 2 d
        ∗ (iprop(boundary (T d : Thread nD τ) ∗ held (T d : Thread nD τ) Sall (V2' V) ∗ (∃ Wt' : Waits sig (HIx 3), ⌜∀ p ∈ Wt', p ∈ Wt ∨ p.2 = none⌝ ∗ owes (T d : Thread nD τ) O Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 2)) ()) >>= k) Φ := by
  have hsplit := Pipeline.arrays_of_unscopedBufs (p := 2) (pcfgs (F := F)) adm (pdats ℕ UU ℕ (Wf V) (Of O Wt)) launch4.win launch4.arr_whole d
    ((pdats ℕ UU ℕ (Wf V) (Of O Wt) 2 d).share_full fun _ => rfl) (fun b => V (Proc.devRef .tc b)) fun _ => rfl
  rw [unscopedBufs_Sall] at hsplit
  have hF : ∀ w, (pdats ℕ UU ℕ (Wf V) (Of O Wt) 2 d).arrAt w cfg4.N = V2' V (Proc.devRef .tc (Pipeline.arrRef spec4 w)) := fun w => by
    match w with
    | ⟨0, _⟩ => exact (kept2 (Wf V 2) (O, (↑Wt : Set (SemLoc sig × HIx 3))) d 0 rfl _).trans (V2'_of_ne V _ (fun h => absurd (Proc.devRef_injective _ h) (by decide) : (Proc.devRef .tc main_v11_1 : DevRef τ sig) ≠ Proc.devRef .tc main_v14_0) (fun h => absurd (Proc.devRef_injective _ h) (by decide) : (Proc.devRef .tc main_v11_1 : DevRef τ sig) ≠ Proc.devRef .tc main_v14_1)).symm
    | ⟨1, _⟩ => exact (kept2 (Wf V 2) (O, (↑Wt : Set (SemLoc sig × HIx 3))) d 1 rfl _).trans (V2'_of_ne V _ (fun h => absurd (Proc.devRef_injective _ h) (by decide) : (Proc.devRef .tc main_v12 : DevRef τ sig) ≠ Proc.devRef .tc main_v14_0) (fun h => absurd (Proc.devRef_injective _ h) (by decide) : (Proc.devRef .tc main_v12 : DevRef τ sig) ≠ Proc.devRef .tc main_v14_1)).symm
    | ⟨2, _⟩ => exact (kept2 (Wf V 2) (O, (↑Wt : Set (SemLoc sig × HIx 3))) d 2 rfl _).trans (V2'_of_ne V _ (fun h => absurd (Proc.devRef_injective _ h) (by decide) : (Proc.devRef .tc main_arg7 : DevRef τ sig) ≠ Proc.devRef .tc main_v14_0) (fun h => absurd (Proc.devRef_injective _ h) (by decide) : (Proc.devRef .tc main_arg7 : DevRef τ sig) ≠ Proc.devRef .tc main_v14_1)).symm
    | ⟨3, _⟩ => exact (kept2 (Wf V 2) (O, (↑Wt : Set (SemLoc sig × HIx 3))) d 3 rfl _).trans (V2'_of_ne V _ (fun h => absurd (Proc.devRef_injective _ h) (by decide) : (Proc.devRef .tc main_v13 : DevRef τ sig) ≠ Proc.devRef .tc main_v14_0) (fun h => absurd (Proc.devRef_injective _ h) (by decide) : (Proc.devRef .tc main_v13 : DevRef τ sig) ≠ Proc.devRef .tc main_v14_1)).symm
    | ⟨4, _⟩ => exact (kept2 (Wf V 2) (O, (↑Wt : Set (SemLoc sig × HIx 3))) d 4 rfl _).trans (V2'_of_ne V _ (fun h => absurd (Proc.devRef_injective _ h) (by decide) : (Proc.devRef .tc main_arg10 : DevRef τ sig) ≠ Proc.devRef .tc main_v14_0) (fun h => absurd (Proc.devRef_injective _ h) (by decide) : (Proc.devRef .tc main_arg10 : DevRef τ sig) ≠ Proc.devRef .tc main_v14_1)).symm
    | ⟨5, _⟩ => exact (kept2 (Wf V 2) (O, (↑Wt : Set (SemLoc sig × HIx 3))) d 5 rfl _).trans (V2'_of_ne V _ (fun h => absurd (Proc.devRef_injective _ h) (by decide) : (Proc.devRef .tc main_arg12 : DevRef τ sig) ≠ Proc.devRef .tc main_v14_0) (fun h => absurd (Proc.devRef_injective _ h) (by decide) : (Proc.devRef .tc main_arg12 : DevRef τ sig) ≠ Proc.devRef .tc main_v14_1)).symm
    | ⟨6, _⟩ => exact (final2_6 (Wf V 2) (O, (↑Wt : Set (SemLoc sig × HIx 3))) d).trans (V2'_out6 V).symm
    | ⟨7, _⟩ => exact (final2_7 (Wf V 2) (O, (↑Wt : Set (SemLoc sig × HIx 3))) d).trans (V2'_out7 V).symm
  have hrest : ∀ b, b ∉ Finset.univ.image (Pipeline.arrRef spec4) → V2' V (Proc.devRef .tc b) = V (Proc.devRef .tc b) :=
    fun b hb => V2'_of_ne V _ (fun h => hb (by rw [Proc.devRef_injective _ h]; exact Finset.mem_image.mpr ⟨6, Finset.mem_univ _, rfl⟩)) (fun h => hb (by rw [Proc.devRef_injective _ h]; exact Finset.mem_image.mpr ⟨7, Finset.mem_univ _, rfl⟩))
  have hjoin := Pipeline.unscopedBufs_of_arrays (p := 2) (pcfgs (F := F)) adm (Ix := HIx 3) (Name := ℕ) (U := UU) (Lvl := ℕ)
    launch4.win launch4.arr_whole d (pdats ℕ UU ℕ (Wf V) (Of O Wt)) ((pdats ℕ UU ℕ (Wf V) (Of O Wt) 2 d).share_full fun _ => rfl)
    (fun b => V (Proc.devRef .tc b)) (fun b => V2' V (Proc.devRef .tc b)) ((pdats ℕ UU ℕ (Wf V) (Of O Wt) 2 d).arrAt · cfg4.N) hF hrest
  rw [unscopedBufs_Sall] at hjoin
  iintro ⟨Hb, Hh, HO, Hlev, Hg, Ht, Hk⟩
  ihave H := hsplit $$ Hh
  icases H with ⟨Ha, Hrest⟩
  iapply (wp_region2 (Wf V) (Of O Wt) lv (fun _ _ g => hO g) hlv d Wt (fun _ h => h) k Φ)
  isplitl [Hb]; · iexact Hb
  isplitl [Ha]; · iexact Ha
  isplitl [HO]; · iexact HO
  isplitl [Hlev]; · iexact Hlev
  isplitl [Hg]; · iexact Hg
  isplitl [Ht]; · iexact Ht
  iintro ⟨Hb, Ha, HO⟩
  iapply Hk
  isplitl [Hb]; · iexact Hb
  isplitl [Ha Hrest]
  · iapply hjoin
    isplitl [Ha]; · iexact Ha
    iexact Hrest
  icases HO with ⟨%W', %hW', HO⟩
  iexists W'; isplitr
  · ipureintro
    exact fun p hp => (hW' (Finset.mem_coe.mpr hp)).imp Finset.mem_coe.mp (fun ⟨_, _, e⟩ => congrArg Prod.snd e)
  iexact HO

/-! ## Region 3 -/

/-- The valuation after region 3: its output array at the region's function of the inputs, every other buffer as it was. -/
def V3' (V : Valuation τ sig (Elt F)) : Valuation τ sig (Elt F) :=
  Function.update (V) (Proc.devRef .tc main_v17) (H3 (V (Proc.devRef .tc main_v14_1)) (V (Proc.devRef .tc main_v15)) (V (Proc.devRef .tc main_arg11)) (V (Proc.devRef .tc main_v16)))

theorem V3'_out4 (V : Valuation τ sig (Elt F)) : V3' V (Proc.devRef .tc main_v17) = H3 (V (Proc.devRef .tc main_v14_1)) (V (Proc.devRef .tc main_v15)) (V (Proc.devRef .tc main_arg11)) (V (Proc.devRef .tc main_v16)) :=
  Function.update_self _ _ _
theorem V3'_of_ne (V : Valuation τ sig (Elt F)) (b : DevRef τ sig) (h4 : b ≠ Proc.devRef .tc main_v17) : V3' V b = V b :=
  Function.update_of_ne h4 _ _

-- a library lemma stated over the pinned configuration unifies with the printed one only when unification may unfold
-- plain definitions in a metavariable's type
set_option backward.isDefEq.respectTransparency.types false in
/-- REGION 3 over the thread state "every unscoped array at a valuation": the region's arrays are split out of the
    held set at entry and put back at exit at the updated valuation; the other arrays ride along untouched. -/
theorem wp_region_held3 (V : Valuation τ sig (Elt F)) (O : CellTallies nD τ sig (HIx 3)) (hO : ∀ g, O g none = 0)
    (lv : GSem nD τ sig → HIx 3 → ℕ) (hlv : (K (F := F)).Refines lv) (d : Dev nD) (Wt : Waits sig (HIx 3)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall V ∗ owes (T d : Thread nD τ) O Wt
        ∗ levAts (K (F := F)).L lv
        ∗ Pipeline.cellsGhost (Pipeline.pin (pcfgs (F := F)) adm) ER 3 d ∗ Pipeline.toksInit (Pipeline.pin (pcfgs (F := F)) adm) ER 3 d
        ∗ (iprop(boundary (T d : Thread nD τ) ∗ held (T d : Thread nD τ) Sall (V3' V) ∗ (∃ Wt' : Waits sig (HIx 3), ⌜∀ p ∈ Wt', p ∈ Wt ∨ p.2 = none⌝ ∗ owes (T d : Thread nD τ) O Wt'))
            -∗ wp frame (wpE ((K (F := F)).defs D) 𝒱 (T d) none) Set.univ (k ⟨⟩) Φ))
      ⊢ wp frame (wpE ((K (F := F)).defs D) 𝒱 (T d) none) Set.univ
          (Prog.lift (.customCall (SparseCore.inner (Pipeline.entry 3)) ()) >>= k) Φ := by
  have hsplit := Pipeline.arrays_of_unscopedBufs (p := 3) (pcfgs (F := F)) adm (pdats ℕ UU ℕ (Wf V) (Of O Wt)) launch6.win launch6.arr_whole d
    ((pdats ℕ UU ℕ (Wf V) (Of O Wt) 3 d).share_full fun _ => rfl) (fun b => V (Proc.devRef .tc b)) fun _ => rfl
  rw [unscopedBufs_Sall] at hsplit
  have hF : ∀ w, (pdats ℕ UU ℕ (Wf V) (Of O Wt) 3 d).arrAt w cfg6.N = V3' V (Proc.devRef .tc (Pipeline.arrRef spec6 w)) := fun w => by
    match w with
    | ⟨0, _⟩ => exact (kept3 (Wf V 3) (O, (↑Wt : Set (SemLoc sig × HIx 3))) d 0 rfl _).trans (V3'_of_ne V _ (fun h => absurd (Proc.devRef_injective _ h) (by decide) : (Proc.devRef .tc main_v14_1 : DevRef τ sig) ≠ Proc.devRef .tc main_v17)).symm
    | ⟨1, _⟩ => exact (kept3 (Wf V 3) (O, (↑Wt : Set (SemLoc sig × HIx 3))) d 1 rfl _).trans (V3'_of_ne V _ (fun h => absurd (Proc.devRef_injective _ h) (by decide) : (Proc.devRef .tc main_v15 : DevRef τ sig) ≠ Proc.devRef .tc main_v17)).symm
    | ⟨2, _⟩ => exact (kept3 (Wf V 3) (O, (↑Wt : Set (SemLoc sig × HIx 3))) d 2 rfl _).trans (V3'_of_ne V _ (fun h => absurd (Proc.devRef_injective _ h) (by decide) : (Proc.devRef .tc main_arg11 : DevRef τ sig) ≠ Proc.devRef .tc main_v17)).symm
    | ⟨3, _⟩ => exact (kept3 (Wf V 3) (O, (↑Wt : Set (SemLoc sig × HIx 3))) d 3 rfl _).trans (V3'_of_ne V _ (fun h => absurd (Proc.devRef_injective _ h) (by decide) : (Proc.devRef .tc main_v16 : DevRef τ sig) ≠ Proc.devRef .tc main_v17)).symm
    | ⟨4, _⟩ => exact (final3_4 (Wf V 3) (O, (↑Wt : Set (SemLoc sig × HIx 3))) d).trans (V3'_out4 V).symm
  have hrest : ∀ b, b ∉ Finset.univ.image (Pipeline.arrRef spec6) → V3' V (Proc.devRef .tc b) = V (Proc.devRef .tc b) :=
    fun b hb => V3'_of_ne V _ (fun h => hb (by rw [Proc.devRef_injective _ h]; exact Finset.mem_image.mpr ⟨4, Finset.mem_univ _, rfl⟩))
  have hjoin := Pipeline.unscopedBufs_of_arrays (p := 3) (pcfgs (F := F)) adm (Ix := HIx 3) (Name := ℕ) (U := UU) (Lvl := ℕ)
    launch6.win launch6.arr_whole d (pdats ℕ UU ℕ (Wf V) (Of O Wt)) ((pdats ℕ UU ℕ (Wf V) (Of O Wt) 3 d).share_full fun _ => rfl)
    (fun b => V (Proc.devRef .tc b)) (fun b => V3' V (Proc.devRef .tc b)) ((pdats ℕ UU ℕ (Wf V) (Of O Wt) 3 d).arrAt · cfg6.N) hF hrest
  rw [unscopedBufs_Sall] at hjoin
  iintro ⟨Hb, Hh, HO, Hlev, Hg, Ht, Hk⟩
  ihave H := hsplit $$ Hh
  icases H with ⟨Ha, Hrest⟩
  iapply (wp_region3 (Wf V) (Of O Wt) lv (fun _ _ g => hO g) hlv d Wt (fun _ h => h) k Φ)
  isplitl [Hb]; · iexact Hb
  isplitl [Ha]; · iexact Ha
  isplitl [HO]; · iexact HO
  isplitl [Hlev]; · iexact Hlev
  isplitl [Hg]; · iexact Hg
  isplitl [Ht]; · iexact Ht
  iintro ⟨Hb, Ha, HO⟩
  iapply Hk
  isplitl [Hb]; · iexact Hb
  isplitl [Ha Hrest]
  · iapply hjoin
    isplitl [Ha]; · iexact Ha
    iexact Hrest
  icases HO with ⟨%W', %hW', HO⟩
  iexists W'; isplitr
  · ipureintro
    exact fun p hp => (hW' (Finset.mem_coe.mpr hp)).imp Finset.mem_coe.mp (fun ⟨_, _, e⟩ => congrArg Prod.snd e)
  iexact HO

end Cert.Proof.KB

end
-- ==== Proof.ScValsK.lean ====
/-
  The bookkeeping of @main's valuation: the contents of the TensorCore's arrays after each of the program's eleven
  steps — the host operations that lay the index table out, then three times a SparseCore call (the neighbour sums of
  the call's table), a reshape of the layer's bias into a row, and the TensorCore regions — each read back as the
  NAMED term of the launch memory it is: the index table, the tables, the neighbour sums, the regions' products and
  layers, at the end the program's result, and every argument array as the launch left it.
-/
import proofs.«205366_g3083786518796_cont_9to1_852_38_alg».proof.Proof.TcHeldK
import proofs.«205366_g3083786518796_cont_9to1_852_38_alg».proof.Proof.ScNamesK
import proofs.«205366_g3083786518796_cont_9to1_852_38_alg».proof.Proof.HostPrefixK

noncomputable section

namespace Cert.Proof.KB

open Cert.Kernel Cert.Kernel.Gen Cert.Kernel.Regions

open Idealize.ShloMosaic
open Idealize.SL.Sem

variable {F : FTy → Type} [FloatOps F]

/-- Distinct TensorCore references are distinct device buffers. -/
theorem dne (a b : Ref sig .tc) (h : a ≠ b := by decide) : (Proc.devRef .tc a : DevRef τ sig) ≠ Proc.devRef .tc b :=
  StableHlo.devRef_ne_of_ne h

/-- The buffers the eleven host operations write. -/
abbrev preW : List (Ref sig .tc) :=
  [main_v0, main_v1, main_c, main_v2, main_v3, main_v4, main_c_0, main_v5, main_c_1, main_v6, main_v7]

open StableHlo in
theorem pre_writes : (Cert.Kernel.HostPre.preOps (F := F)).Forall fun op => op.writes ⊆ (preW.map (Proc.devRef (τ := τ) .tc)).toFinset := by
  unfold Cert.Kernel.HostPre.preOps
  simp only [List.Forall]
  refine ⟨?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- A buffer the host operations do not write keeps its contents through them. -/
theorem pre_keep (V : Valuation τ sig (Elt F)) (r : Ref sig .tc) (h : r ∉ preW) :
    StableHlo.after Cert.Kernel.HostPre.preOps V (Proc.devRef .tc r) = V (Proc.devRef .tc r) :=
  StableHlo.after_of_writes_sub _ V pre_writes h

variable (m : (ℓ : Loc nD τ sig) → Buf (Elt F) ℓ) (d : Dev nD)

/-- The launch contents of device `d` as a valuation. -/
def W0 : Valuation τ sig (Elt F) := fun b => m (d, b)

theorem W0_arg0 : (W0 m d (Proc.devRef .tc main_arg0) : FVec F S10000x128 .f32) = argOf m d main_arg0 := rfl
theorem W0_arg1 : (W0 m d (Proc.devRef .tc main_arg1) : IVec S2x320000 32) = argOf m d main_arg1 := rfl
theorem W0_arg2 : (W0 m d (Proc.devRef .tc main_arg2) : FVec F S128x128 .f32) = argOf m d main_arg2 := rfl
theorem W0_arg3 : (W0 m d (Proc.devRef .tc main_arg3) : FVec F S128x128 .f32) = argOf m d main_arg3 := rfl
theorem W0_arg4 : (W0 m d (Proc.devRef .tc main_arg4) : FVec F S128x128 .f32) = argOf m d main_arg4 := rfl
theorem W0_arg5 : (W0 m d (Proc.devRef .tc main_arg5) : FVec F S128 .f32) = argOf m d main_arg5 := rfl
theorem W0_arg6 : (W0 m d (Proc.devRef .tc main_arg6) : FVec F S128x128 .f32) = argOf m d main_arg6 := rfl
theorem W0_arg7 : (W0 m d (Proc.devRef .tc main_arg7) : FVec F S128x128 .f32) = argOf m d main_arg7 := rfl
theorem W0_arg8 : (W0 m d (Proc.devRef .tc main_arg8) : FVec F S128x128 .f32) = argOf m d main_arg8 := rfl
theorem W0_arg9 : (W0 m d (Proc.devRef .tc main_arg9) : FVec F S128 .f32) = argOf m d main_arg9 := rfl
theorem W0_arg10 : (W0 m d (Proc.devRef .tc main_arg10) : FVec F S128x128 .f32) = argOf m d main_arg10 := rfl
theorem W0_arg11 : (W0 m d (Proc.devRef .tc main_arg11) : FVec F S128x128 .f32) = argOf m d main_arg11 := rfl
theorem W0_arg12 : (W0 m d (Proc.devRef .tc main_arg12) : FVec F S128x128 .f32) = argOf m d main_arg12 := rfl
theorem W0_arg13 : (W0 m d (Proc.devRef .tc main_arg13) : FVec F S128 .f32) = argOf m d main_arg13 := rfl

/-- After the host operations that lay the index table out. -/
def W1 : Valuation τ sig (Elt F) := StableHlo.after Cert.Kernel.HostPre.preOps (W0 m d)
theorem W1_arg0 : (W1 m d (Proc.devRef .tc main_arg0) : FVec F S10000x128 .f32) = argOf m d main_arg0 :=
  (pre_keep _ main_arg0 (by decide)).trans (W0_arg0 m d)
theorem W1_arg1 : (W1 m d (Proc.devRef .tc main_arg1) : IVec S2x320000 32) = argOf m d main_arg1 :=
  (pre_keep _ main_arg1 (by decide)).trans (W0_arg1 m d)
theorem W1_arg2 : (W1 m d (Proc.devRef .tc main_arg2) : FVec F S128x128 .f32) = argOf m d main_arg2 :=
  (pre_keep _ main_arg2 (by decide)).trans (W0_arg2 m d)
theorem W1_arg3 : (W1 m d (Proc.devRef .tc main_arg3) : FVec F S128x128 .f32) = argOf m d main_arg3 :=
  (pre_keep _ main_arg3 (by decide)).trans (W0_arg3 m d)
theorem W1_arg4 : (W1 m d (Proc.devRef .tc main_arg4) : FVec F S128x128 .f32) = argOf m d main_arg4 :=
  (pre_keep _ main_arg4 (by decide)).trans (W0_arg4 m d)
theorem W1_arg5 : (W1 m d (Proc.devRef .tc main_arg5) : FVec F S128 .f32) = argOf m d main_arg5 :=
  (pre_keep _ main_arg5 (by decide)).trans (W0_arg5 m d)
theorem W1_arg6 : (W1 m d (Proc.devRef .tc main_arg6) : FVec F S128x128 .f32) = argOf m d main_arg6 :=
  (pre_keep _ main_arg6 (by decide)).trans (W0_arg6 m d)
theorem W1_arg7 : (W1 m d (Proc.devRef .tc main_arg7) : FVec F S128x128 .f32) = argOf m d main_arg7 :=
  (pre_keep _ main_arg7 (by decide)).trans (W0_arg7 m d)
theorem W1_arg8 : (W1 m d (Proc.devRef .tc main_arg8) : FVec F S128x128 .f32) = argOf m d main_arg8 :=
  (pre_keep _ main_arg8 (by decide)).trans (W0_arg8 m d)
theorem W1_arg9 : (W1 m d (Proc.devRef .tc main_arg9) : FVec F S128 .f32) = argOf m d main_arg9 :=
  (pre_keep _ main_arg9 (by decide)).trans (W0_arg9 m d)
theorem W1_arg10 : (W1 m d (Proc.devRef .tc main_arg10) : FVec F S128x128 .f32) = argOf m d main_arg10 :=
  (pre_keep _ main_arg10 (by decide)).trans (W0_arg10 m d)
theorem W1_arg11 : (W1 m d (Proc.devRef .tc main_arg11) : FVec F S128x128 .f32) = argOf m d main_arg11 :=
  (pre_keep _ main_arg11 (by decide)).trans (W0_arg11 m d)
theorem W1_arg12 : (W1 m d (Proc.devRef .tc main_arg12) : FVec F S128x128 .f32) = argOf m d main_arg12 :=
  (pre_keep _ main_arg12 (by decide)).trans (W0_arg12 m d)
theorem W1_arg13 : (W1 m d (Proc.devRef .tc main_arg13) : FVec F S128 .f32) = argOf m d main_arg13 :=
  (pre_keep _ main_arg13 (by decide)).trans (W0_arg13 m d)
theorem W1_v7 : (W1 m d (Proc.devRef .tc main_v7) : IVec S32x10496 32) = IbOf m d := by
  unfold W1; rw [Cert.Kernel.HostPre.after_pre_v7]; rfl

/-- After the SparseCore call that writes main_v8: the neighbour sums of its table over the index table. -/
def W2 : Valuation τ sig (Elt F) :=
  Function.update (W1 m d) (Proc.devRef .tc main_v8) (gsumF (W1 m d (Proc.devRef .tc main_arg0)) (W1 m d (Proc.devRef .tc main_v7)))
theorem W2_arg0 : (W2 m d (Proc.devRef .tc main_arg0) : FVec F S10000x128 .f32) = argOf m d main_arg0 :=
  (Function.update_of_ne (dne main_arg0 main_v8) _ _).trans (W1_arg0 m d)
theorem W2_arg1 : (W2 m d (Proc.devRef .tc main_arg1) : IVec S2x320000 32) = argOf m d main_arg1 :=
  (Function.update_of_ne (dne main_arg1 main_v8) _ _).trans (W1_arg1 m d)
theorem W2_arg2 : (W2 m d (Proc.devRef .tc main_arg2) : FVec F S128x128 .f32) = argOf m d main_arg2 :=
  (Function.update_of_ne (dne main_arg2 main_v8) _ _).trans (W1_arg2 m d)
theorem W2_arg3 : (W2 m d (Proc.devRef .tc main_arg3) : FVec F S128x128 .f32) = argOf m d main_arg3 :=
  (Function.update_of_ne (dne main_arg3 main_v8) _ _).trans (W1_arg3 m d)
theorem W2_arg4 : (W2 m d (Proc.devRef .tc main_arg4) : FVec F S128x128 .f32) = argOf m d main_arg4 :=
  (Function.update_of_ne (dne main_arg4 main_v8) _ _).trans (W1_arg4 m d)
theorem W2_arg5 : (W2 m d (Proc.devRef .tc main_arg5) : FVec F S128 .f32) = argOf m d main_arg5 :=
  (Function.update_of_ne (dne main_arg5 main_v8) _ _).trans (W1_arg5 m d)
theorem W2_arg6 : (W2 m d (Proc.devRef .tc main_arg6) : FVec F S128x128 .f32) = argOf m d main_arg6 :=
  (Function.update_of_ne (dne main_arg6 main_v8) _ _).trans (W1_arg6 m d)
theorem W2_arg7 : (W2 m d (Proc.devRef .tc main_arg7) : FVec F S128x128 .f32) = argOf m d main_arg7 :=
  (Function.update_of_ne (dne main_arg7 main_v8) _ _).trans (W1_arg7 m d)
theorem W2_arg8 : (W2 m d (Proc.devRef .tc main_arg8) : FVec F S128x128 .f32) = argOf m d main_arg8 :=
  (Function.update_of_ne (dne main_arg8 main_v8) _ _).trans (W1_arg8 m d)
theorem W2_arg9 : (W2 m d (Proc.devRef .tc main_arg9) : FVec F S128 .f32) = argOf m d main_arg9 :=
  (Function.update_of_ne (dne main_arg9 main_v8) _ _).trans (W1_arg9 m d)
theorem W2_arg10 : (W2 m d (Proc.devRef .tc main_arg10) : FVec F S128x128 .f32) = argOf m d main_arg10 :=
  (Function.update_of_ne (dne main_arg10 main_v8) _ _).trans (W1_arg10 m d)
theorem W2_arg11 : (W2 m d (Proc.devRef .tc main_arg11) : FVec F S128x128 .f32) = argOf m d main_arg11 :=
  (Function.update_of_ne (dne main_arg11 main_v8) _ _).trans (W1_arg11 m d)
theorem W2_arg12 : (W2 m d (Proc.devRef .tc main_arg12) : FVec F S128x128 .f32) = argOf m d main_arg12 :=
  (Function.update_of_ne (dne main_arg12 main_v8) _ _).trans (W1_arg12 m d)
theorem W2_arg13 : (W2 m d (Proc.devRef .tc main_arg13) : FVec F S128 .f32) = argOf m d main_arg13 :=
  (Function.update_of_ne (dne main_arg13 main_v8) _ _).trans (W1_arg13 m d)
theorem W2_v7 : (W2 m d (Proc.devRef .tc main_v7) : IVec S32x10496 32) = IbOf m d :=
  (Function.update_of_ne (dne main_v7 main_v8) _ _).trans (W1_v7 m d)
theorem W2_v8 : (W2 m d (Proc.devRef .tc main_v8) : S10240x128.Idx → F .f32) = G0of m d := by
  unfold W2; rw [Function.update_self, W1_arg0, W1_v7]; rfl

/-- After the TensorCore region that writes main_v9. -/
def W3 : Valuation τ sig (Elt F) := V0' (W2 m d)
theorem W3_arg0 : (W3 m d (Proc.devRef .tc main_arg0) : FVec F S10000x128 .f32) = argOf m d main_arg0 :=
  (V0'_of_ne _ _ (dne main_arg0 main_v9)).trans (W2_arg0 m d)
theorem W3_arg1 : (W3 m d (Proc.devRef .tc main_arg1) : IVec S2x320000 32) = argOf m d main_arg1 :=
  (V0'_of_ne _ _ (dne main_arg1 main_v9)).trans (W2_arg1 m d)
theorem W3_arg2 : (W3 m d (Proc.devRef .tc main_arg2) : FVec F S128x128 .f32) = argOf m d main_arg2 :=
  (V0'_of_ne _ _ (dne main_arg2 main_v9)).trans (W2_arg2 m d)
theorem W3_arg3 : (W3 m d (Proc.devRef .tc main_arg3) : FVec F S128x128 .f32) = argOf m d main_arg3 :=
  (V0'_of_ne _ _ (dne main_arg3 main_v9)).trans (W2_arg3 m d)
theorem W3_arg4 : (W3 m d (Proc.devRef .tc main_arg4) : FVec F S128x128 .f32) = argOf m d main_arg4 :=
  (V0'_of_ne _ _ (dne main_arg4 main_v9)).trans (W2_arg4 m d)
theorem W3_arg5 : (W3 m d (Proc.devRef .tc main_arg5) : FVec F S128 .f32) = argOf m d main_arg5 :=
  (V0'_of_ne _ _ (dne main_arg5 main_v9)).trans (W2_arg5 m d)
theorem W3_arg6 : (W3 m d (Proc.devRef .tc main_arg6) : FVec F S128x128 .f32) = argOf m d main_arg6 :=
  (V0'_of_ne _ _ (dne main_arg6 main_v9)).trans (W2_arg6 m d)
theorem W3_arg7 : (W3 m d (Proc.devRef .tc main_arg7) : FVec F S128x128 .f32) = argOf m d main_arg7 :=
  (V0'_of_ne _ _ (dne main_arg7 main_v9)).trans (W2_arg7 m d)
theorem W3_arg8 : (W3 m d (Proc.devRef .tc main_arg8) : FVec F S128x128 .f32) = argOf m d main_arg8 :=
  (V0'_of_ne _ _ (dne main_arg8 main_v9)).trans (W2_arg8 m d)
theorem W3_arg9 : (W3 m d (Proc.devRef .tc main_arg9) : FVec F S128 .f32) = argOf m d main_arg9 :=
  (V0'_of_ne _ _ (dne main_arg9 main_v9)).trans (W2_arg9 m d)
theorem W3_arg10 : (W3 m d (Proc.devRef .tc main_arg10) : FVec F S128x128 .f32) = argOf m d main_arg10 :=
  (V0'_of_ne _ _ (dne main_arg10 main_v9)).trans (W2_arg10 m d)
theorem W3_arg11 : (W3 m d (Proc.devRef .tc main_arg11) : FVec F S128x128 .f32) = argOf m d main_arg11 :=
  (V0'_of_ne _ _ (dne main_arg11 main_v9)).trans (W2_arg11 m d)
theorem W3_arg12 : (W3 m d (Proc.devRef .tc main_arg12) : FVec F S128x128 .f32) = argOf m d main_arg12 :=
  (V0'_of_ne _ _ (dne main_arg12 main_v9)).trans (W2_arg12 m d)
theorem W3_arg13 : (W3 m d (Proc.devRef .tc main_arg13) : FVec F S128 .f32) = argOf m d main_arg13 :=
  (V0'_of_ne _ _ (dne main_arg13 main_v9)).trans (W2_arg13 m d)
theorem W3_v7 : (W3 m d (Proc.devRef .tc main_v7) : IVec S32x10496 32) = IbOf m d :=
  (V0'_of_ne _ _ (dne main_v7 main_v9)).trans (W2_v7 m d)
theorem W3_v8 : (W3 m d (Proc.devRef .tc main_v8) : S10240x128.Idx → F .f32) = G0of m d :=
  (V0'_of_ne _ _ (dne main_v8 main_v9)).trans (W2_v8 m d)
theorem W3_v9 : (W3 m d (Proc.devRef .tc main_v9) : FVec F S10000x128 .f32) = Z0of m d := by
  unfold W3; rw [V0'_out3, W2_arg0, W2_arg2, W2_arg4]; rfl

/-- After the reshape of a bias into a row. -/
def W4 : Valuation τ sig (Elt F) := (Cert.Kernel.HostPre.rsOp10 (F := F)).result (W3 m d)
theorem W4_arg0 : (W4 m d (Proc.devRef .tc main_arg0) : FVec F S10000x128 .f32) = argOf m d main_arg0 :=
  (Cert.Kernel.HostPre.rsOp10_result_ne _ (by decide : main_arg0 ≠ main_v10)).trans (W3_arg0 m d)
theorem W4_arg1 : (W4 m d (Proc.devRef .tc main_arg1) : IVec S2x320000 32) = argOf m d main_arg1 :=
  (Cert.Kernel.HostPre.rsOp10_result_ne _ (by decide : main_arg1 ≠ main_v10)).trans (W3_arg1 m d)
theorem W4_arg2 : (W4 m d (Proc.devRef .tc main_arg2) : FVec F S128x128 .f32) = argOf m d main_arg2 :=
  (Cert.Kernel.HostPre.rsOp10_result_ne _ (by decide : main_arg2 ≠ main_v10)).trans (W3_arg2 m d)
theorem W4_arg3 : (W4 m d (Proc.devRef .tc main_arg3) : FVec F S128x128 .f32) = argOf m d main_arg3 :=
  (Cert.Kernel.HostPre.rsOp10_result_ne _ (by decide : main_arg3 ≠ main_v10)).trans (W3_arg3 m d)
theorem W4_arg4 : (W4 m d (Proc.devRef .tc main_arg4) : FVec F S128x128 .f32) = argOf m d main_arg4 :=
  (Cert.Kernel.HostPre.rsOp10_result_ne _ (by decide : main_arg4 ≠ main_v10)).trans (W3_arg4 m d)
theorem W4_arg5 : (W4 m d (Proc.devRef .tc main_arg5) : FVec F S128 .f32) = argOf m d main_arg5 :=
  (Cert.Kernel.HostPre.rsOp10_result_ne _ (by decide : main_arg5 ≠ main_v10)).trans (W3_arg5 m d)
theorem W4_arg6 : (W4 m d (Proc.devRef .tc main_arg6) : FVec F S128x128 .f32) = argOf m d main_arg6 :=
  (Cert.Kernel.HostPre.rsOp10_result_ne _ (by decide : main_arg6 ≠ main_v10)).trans (W3_arg6 m d)
theorem W4_arg7 : (W4 m d (Proc.devRef .tc main_arg7) : FVec F S128x128 .f32) = argOf m d main_arg7 :=
  (Cert.Kernel.HostPre.rsOp10_result_ne _ (by decide : main_arg7 ≠ main_v10)).trans (W3_arg7 m d)
theorem W4_arg8 : (W4 m d (Proc.devRef .tc main_arg8) : FVec F S128x128 .f32) = argOf m d main_arg8 :=
  (Cert.Kernel.HostPre.rsOp10_result_ne _ (by decide : main_arg8 ≠ main_v10)).trans (W3_arg8 m d)
theorem W4_arg9 : (W4 m d (Proc.devRef .tc main_arg9) : FVec F S128 .f32) = argOf m d main_arg9 :=
  (Cert.Kernel.HostPre.rsOp10_result_ne _ (by decide : main_arg9 ≠ main_v10)).trans (W3_arg9 m d)
theorem W4_arg10 : (W4 m d (Proc.devRef .tc main_arg10) : FVec F S128x128 .f32) = argOf m d main_arg10 :=
  (Cert.Kernel.HostPre.rsOp10_result_ne _ (by decide : main_arg10 ≠ main_v10)).trans (W3_arg10 m d)
theorem W4_arg11 : (W4 m d (Proc.devRef .tc main_arg11) : FVec F S128x128 .f32) = argOf m d main_arg11 :=
  (Cert.Kernel.HostPre.rsOp10_result_ne _ (by decide : main_arg11 ≠ main_v10)).trans (W3_arg11 m d)
theorem W4_arg12 : (W4 m d (Proc.devRef .tc main_arg12) : FVec F S128x128 .f32) = argOf m d main_arg12 :=
  (Cert.Kernel.HostPre.rsOp10_result_ne _ (by decide : main_arg12 ≠ main_v10)).trans (W3_arg12 m d)
theorem W4_arg13 : (W4 m d (Proc.devRef .tc main_arg13) : FVec F S128 .f32) = argOf m d main_arg13 :=
  (Cert.Kernel.HostPre.rsOp10_result_ne _ (by decide : main_arg13 ≠ main_v10)).trans (W3_arg13 m d)
theorem W4_v7 : (W4 m d (Proc.devRef .tc main_v7) : IVec S32x10496 32) = IbOf m d :=
  (Cert.Kernel.HostPre.rsOp10_result_ne _ (by decide : main_v7 ≠ main_v10)).trans (W3_v7 m d)
theorem W4_v8 : (W4 m d (Proc.devRef .tc main_v8) : S10240x128.Idx → F .f32) = G0of m d :=
  (Cert.Kernel.HostPre.rsOp10_result_ne _ (by decide : main_v8 ≠ main_v10)).trans (W3_v8 m d)
theorem W4_v9 : (W4 m d (Proc.devRef .tc main_v9) : FVec F S10000x128 .f32) = Z0of m d :=
  (Cert.Kernel.HostPre.rsOp10_result_ne _ (by decide : main_v9 ≠ main_v10)).trans (W3_v9 m d)
theorem W4_v10 : (W4 m d (Proc.devRef .tc main_v10) : FVec F S1x128 .f32) = B0of m d := by
  unfold W4; rw [Cert.Kernel.HostPre.rsOp10_result, W3_arg5]; rfl

/-- After the TensorCore region that writes main_v11_0, main_v11_1. -/
def W5 : Valuation τ sig (Elt F) := V1' (W4 m d)
theorem W5_arg0 : (W5 m d (Proc.devRef .tc main_arg0) : FVec F S10000x128 .f32) = argOf m d main_arg0 :=
  (V1'_of_ne _ _ (dne main_arg0 main_v11_0) (dne main_arg0 main_v11_1)).trans (W4_arg0 m d)
theorem W5_arg1 : (W5 m d (Proc.devRef .tc main_arg1) : IVec S2x320000 32) = argOf m d main_arg1 :=
  (V1'_of_ne _ _ (dne main_arg1 main_v11_0) (dne main_arg1 main_v11_1)).trans (W4_arg1 m d)
theorem W5_arg2 : (W5 m d (Proc.devRef .tc main_arg2) : FVec F S128x128 .f32) = argOf m d main_arg2 :=
  (V1'_of_ne _ _ (dne main_arg2 main_v11_0) (dne main_arg2 main_v11_1)).trans (W4_arg2 m d)
theorem W5_arg3 : (W5 m d (Proc.devRef .tc main_arg3) : FVec F S128x128 .f32) = argOf m d main_arg3 :=
  (V1'_of_ne _ _ (dne main_arg3 main_v11_0) (dne main_arg3 main_v11_1)).trans (W4_arg3 m d)
theorem W5_arg4 : (W5 m d (Proc.devRef .tc main_arg4) : FVec F S128x128 .f32) = argOf m d main_arg4 :=
  (V1'_of_ne _ _ (dne main_arg4 main_v11_0) (dne main_arg4 main_v11_1)).trans (W4_arg4 m d)
theorem W5_arg5 : (W5 m d (Proc.devRef .tc main_arg5) : FVec F S128 .f32) = argOf m d main_arg5 :=
  (V1'_of_ne _ _ (dne main_arg5 main_v11_0) (dne main_arg5 main_v11_1)).trans (W4_arg5 m d)
theorem W5_arg6 : (W5 m d (Proc.devRef .tc main_arg6) : FVec F S128x128 .f32) = argOf m d main_arg6 :=
  (V1'_of_ne _ _ (dne main_arg6 main_v11_0) (dne main_arg6 main_v11_1)).trans (W4_arg6 m d)
theorem W5_arg7 : (W5 m d (Proc.devRef .tc main_arg7) : FVec F S128x128 .f32) = argOf m d main_arg7 :=
  (V1'_of_ne _ _ (dne main_arg7 main_v11_0) (dne main_arg7 main_v11_1)).trans (W4_arg7 m d)
theorem W5_arg8 : (W5 m d (Proc.devRef .tc main_arg8) : FVec F S128x128 .f32) = argOf m d main_arg8 :=
  (V1'_of_ne _ _ (dne main_arg8 main_v11_0) (dne main_arg8 main_v11_1)).trans (W4_arg8 m d)
theorem W5_arg9 : (W5 m d (Proc.devRef .tc main_arg9) : FVec F S128 .f32) = argOf m d main_arg9 :=
  (V1'_of_ne _ _ (dne main_arg9 main_v11_0) (dne main_arg9 main_v11_1)).trans (W4_arg9 m d)
theorem W5_arg10 : (W5 m d (Proc.devRef .tc main_arg10) : FVec F S128x128 .f32) = argOf m d main_arg10 :=
  (V1'_of_ne _ _ (dne main_arg10 main_v11_0) (dne main_arg10 main_v11_1)).trans (W4_arg10 m d)
theorem W5_arg11 : (W5 m d (Proc.devRef .tc main_arg11) : FVec F S128x128 .f32) = argOf m d main_arg11 :=
  (V1'_of_ne _ _ (dne main_arg11 main_v11_0) (dne main_arg11 main_v11_1)).trans (W4_arg11 m d)
theorem W5_arg12 : (W5 m d (Proc.devRef .tc main_arg12) : FVec F S128x128 .f32) = argOf m d main_arg12 :=
  (V1'_of_ne _ _ (dne main_arg12 main_v11_0) (dne main_arg12 main_v11_1)).trans (W4_arg12 m d)
theorem W5_arg13 : (W5 m d (Proc.devRef .tc main_arg13) : FVec F S128 .f32) = argOf m d main_arg13 :=
  (V1'_of_ne _ _ (dne main_arg13 main_v11_0) (dne main_arg13 main_v11_1)).trans (W4_arg13 m d)
theorem W5_v7 : (W5 m d (Proc.devRef .tc main_v7) : IVec S32x10496 32) = IbOf m d :=
  (V1'_of_ne _ _ (dne main_v7 main_v11_0) (dne main_v7 main_v11_1)).trans (W4_v7 m d)
theorem W5_v8 : (W5 m d (Proc.devRef .tc main_v8) : S10240x128.Idx → F .f32) = G0of m d :=
  (V1'_of_ne _ _ (dne main_v8 main_v11_0) (dne main_v8 main_v11_1)).trans (W4_v8 m d)
theorem W5_v9 : (W5 m d (Proc.devRef .tc main_v9) : FVec F S10000x128 .f32) = Z0of m d :=
  (V1'_of_ne _ _ (dne main_v9 main_v11_0) (dne main_v9 main_v11_1)).trans (W4_v9 m d)
theorem W5_v10 : (W5 m d (Proc.devRef .tc main_v10) : FVec F S1x128 .f32) = B0of m d :=
  (V1'_of_ne _ _ (dne main_v10 main_v11_0) (dne main_v10 main_v11_1)).trans (W4_v10 m d)
theorem W5_v11_0 : (W5 m d (Proc.devRef .tc main_v11_0) : S10000x128.Idx → F .f32) = T1of m d := by
  unfold W5; rw [V1'_out6, W4_v9, W4_v8, W4_arg3, W4_v10]; rfl
theorem W5_v11_1 : (W5 m d (Proc.devRef .tc main_v11_1) : FVec F S10000x128 .f32) = Z1of m d := by
  unfold W5; rw [V1'_out7, W4_v9, W4_v8, W4_arg3, W4_v10, W4_arg6, W4_arg8]; rfl

/-- After the SparseCore call that writes main_v12: the neighbour sums of its table over the index table. -/
def W6 : Valuation τ sig (Elt F) :=
  Function.update (W5 m d) (Proc.devRef .tc main_v12) (gsumF (W5 m d (Proc.devRef .tc main_v11_0)) (W5 m d (Proc.devRef .tc main_v7)))
theorem W6_arg0 : (W6 m d (Proc.devRef .tc main_arg0) : FVec F S10000x128 .f32) = argOf m d main_arg0 :=
  (Function.update_of_ne (dne main_arg0 main_v12) _ _).trans (W5_arg0 m d)
theorem W6_arg1 : (W6 m d (Proc.devRef .tc main_arg1) : IVec S2x320000 32) = argOf m d main_arg1 :=
  (Function.update_of_ne (dne main_arg1 main_v12) _ _).trans (W5_arg1 m d)
theorem W6_arg2 : (W6 m d (Proc.devRef .tc main_arg2) : FVec F S128x128 .f32) = argOf m d main_arg2 :=
  (Function.update_of_ne (dne main_arg2 main_v12) _ _).trans (W5_arg2 m d)
theorem W6_arg3 : (W6 m d (Proc.devRef .tc main_arg3) : FVec F S128x128 .f32) = argOf m d main_arg3 :=
  (Function.update_of_ne (dne main_arg3 main_v12) _ _).trans (W5_arg3 m d)
theorem W6_arg4 : (W6 m d (Proc.devRef .tc main_arg4) : FVec F S128x128 .f32) = argOf m d main_arg4 :=
  (Function.update_of_ne (dne main_arg4 main_v12) _ _).trans (W5_arg4 m d)
theorem W6_arg5 : (W6 m d (Proc.devRef .tc main_arg5) : FVec F S128 .f32) = argOf m d main_arg5 :=
  (Function.update_of_ne (dne main_arg5 main_v12) _ _).trans (W5_arg5 m d)
theorem W6_arg6 : (W6 m d (Proc.devRef .tc main_arg6) : FVec F S128x128 .f32) = argOf m d main_arg6 :=
  (Function.update_of_ne (dne main_arg6 main_v12) _ _).trans (W5_arg6 m d)
theorem W6_arg7 : (W6 m d (Proc.devRef .tc main_arg7) : FVec F S128x128 .f32) = argOf m d main_arg7 :=
  (Function.update_of_ne (dne main_arg7 main_v12) _ _).trans (W5_arg7 m d)
theorem W6_arg8 : (W6 m d (Proc.devRef .tc main_arg8) : FVec F S128x128 .f32) = argOf m d main_arg8 :=
  (Function.update_of_ne (dne main_arg8 main_v12) _ _).trans (W5_arg8 m d)
theorem W6_arg9 : (W6 m d (Proc.devRef .tc main_arg9) : FVec F S128 .f32) = argOf m d main_arg9 :=
  (Function.update_of_ne (dne main_arg9 main_v12) _ _).trans (W5_arg9 m d)
theorem W6_arg10 : (W6 m d (Proc.devRef .tc main_arg10) : FVec F S128x128 .f32) = argOf m d main_arg10 :=
  (Function.update_of_ne (dne main_arg10 main_v12) _ _).trans (W5_arg10 m d)
theorem W6_arg11 : (W6 m d (Proc.devRef .tc main_arg11) : FVec F S128x128 .f32) = argOf m d main_arg11 :=
  (Function.update_of_ne (dne main_arg11 main_v12) _ _).trans (W5_arg11 m d)
theorem W6_arg12 : (W6 m d (Proc.devRef .tc main_arg12) : FVec F S128x128 .f32) = argOf m d main_arg12 :=
  (Function.update_of_ne (dne main_arg12 main_v12) _ _).trans (W5_arg12 m d)
theorem W6_arg13 : (W6 m d (Proc.devRef .tc main_arg13) : FVec F S128 .f32) = argOf m d main_arg13 :=
  (Function.update_of_ne (dne main_arg13 main_v12) _ _).trans (W5_arg13 m d)
theorem W6_v7 : (W6 m d (Proc.devRef .tc main_v7) : IVec S32x10496 32) = IbOf m d :=
  (Function.update_of_ne (dne main_v7 main_v12) _ _).trans (W5_v7 m d)
theorem W6_v11_0 : (W6 m d (Proc.devRef .tc main_v11_0) : S10000x128.Idx → F .f32) = T1of m d :=
  (Function.update_of_ne (dne main_v11_0 main_v12) _ _).trans (W5_v11_0 m d)
theorem W6_v11_1 : (W6 m d (Proc.devRef .tc main_v11_1) : FVec F S10000x128 .f32) = Z1of m d :=
  (Function.update_of_ne (dne main_v11_1 main_v12) _ _).trans (W5_v11_1 m d)
theorem W6_v12 : (W6 m d (Proc.devRef .tc main_v12) : S10240x128.Idx → F .f32) = G1of m d := by
  unfold W6; rw [Function.update_self, W5_v11_0, W5_v7]; rfl

/-- After the reshape of a bias into a row. -/
def W7 : Valuation τ sig (Elt F) := (Cert.Kernel.HostPre.rsOp13 (F := F)).result (W6 m d)
theorem W7_arg0 : (W7 m d (Proc.devRef .tc main_arg0) : FVec F S10000x128 .f32) = argOf m d main_arg0 :=
  (Cert.Kernel.HostPre.rsOp13_result_ne _ (by decide : main_arg0 ≠ main_v13)).trans (W6_arg0 m d)
theorem W7_arg1 : (W7 m d (Proc.devRef .tc main_arg1) : IVec S2x320000 32) = argOf m d main_arg1 :=
  (Cert.Kernel.HostPre.rsOp13_result_ne _ (by decide : main_arg1 ≠ main_v13)).trans (W6_arg1 m d)
theorem W7_arg2 : (W7 m d (Proc.devRef .tc main_arg2) : FVec F S128x128 .f32) = argOf m d main_arg2 :=
  (Cert.Kernel.HostPre.rsOp13_result_ne _ (by decide : main_arg2 ≠ main_v13)).trans (W6_arg2 m d)
theorem W7_arg3 : (W7 m d (Proc.devRef .tc main_arg3) : FVec F S128x128 .f32) = argOf m d main_arg3 :=
  (Cert.Kernel.HostPre.rsOp13_result_ne _ (by decide : main_arg3 ≠ main_v13)).trans (W6_arg3 m d)
theorem W7_arg4 : (W7 m d (Proc.devRef .tc main_arg4) : FVec F S128x128 .f32) = argOf m d main_arg4 :=
  (Cert.Kernel.HostPre.rsOp13_result_ne _ (by decide : main_arg4 ≠ main_v13)).trans (W6_arg4 m d)
theorem W7_arg5 : (W7 m d (Proc.devRef .tc main_arg5) : FVec F S128 .f32) = argOf m d main_arg5 :=
  (Cert.Kernel.HostPre.rsOp13_result_ne _ (by decide : main_arg5 ≠ main_v13)).trans (W6_arg5 m d)
theorem W7_arg6 : (W7 m d (Proc.devRef .tc main_arg6) : FVec F S128x128 .f32) = argOf m d main_arg6 :=
  (Cert.Kernel.HostPre.rsOp13_result_ne _ (by decide : main_arg6 ≠ main_v13)).trans (W6_arg6 m d)
theorem W7_arg7 : (W7 m d (Proc.devRef .tc main_arg7) : FVec F S128x128 .f32) = argOf m d main_arg7 :=
  (Cert.Kernel.HostPre.rsOp13_result_ne _ (by decide : main_arg7 ≠ main_v13)).trans (W6_arg7 m d)
theorem W7_arg8 : (W7 m d (Proc.devRef .tc main_arg8) : FVec F S128x128 .f32) = argOf m d main_arg8 :=
  (Cert.Kernel.HostPre.rsOp13_result_ne _ (by decide : main_arg8 ≠ main_v13)).trans (W6_arg8 m d)
theorem W7_arg9 : (W7 m d (Proc.devRef .tc main_arg9) : FVec F S128 .f32) = argOf m d main_arg9 :=
  (Cert.Kernel.HostPre.rsOp13_result_ne _ (by decide : main_arg9 ≠ main_v13)).trans (W6_arg9 m d)
theorem W7_arg10 : (W7 m d (Proc.devRef .tc main_arg10) : FVec F S128x128 .f32) = argOf m d main_arg10 :=
  (Cert.Kernel.HostPre.rsOp13_result_ne _ (by decide : main_arg10 ≠ main_v13)).trans (W6_arg10 m d)
theorem W7_arg11 : (W7 m d (Proc.devRef .tc main_arg11) : FVec F S128x128 .f32) = argOf m d main_arg11 :=
  (Cert.Kernel.HostPre.rsOp13_result_ne _ (by decide : main_arg11 ≠ main_v13)).trans (W6_arg11 m d)
theorem W7_arg12 : (W7 m d (Proc.devRef .tc main_arg12) : FVec F S128x128 .f32) = argOf m d main_arg12 :=
  (Cert.Kernel.HostPre.rsOp13_result_ne _ (by decide : main_arg12 ≠ main_v13)).trans (W6_arg12 m d)
theorem W7_arg13 : (W7 m d (Proc.devRef .tc main_arg13) : FVec F S128 .f32) = argOf m d main_arg13 :=
  (Cert.Kernel.HostPre.rsOp13_result_ne _ (by decide : main_arg13 ≠ main_v13)).trans (W6_arg13 m d)
theorem W7_v7 : (W7 m d (Proc.devRef .tc main_v7) : IVec S32x10496 32) = IbOf m d :=
  (Cert.Kernel.HostPre.rsOp13_result_ne _ (by decide : main_v7 ≠ main_v13)).trans (W6_v7 m d)
theorem W7_v11_1 : (W7 m d (Proc.devRef .tc main_v11_1) : FVec F S10000x128 .f32) = Z1of m d :=
  (Cert.Kernel.HostPre.rsOp13_result_ne _ (by decide : main_v11_1 ≠ main_v13)).trans (W6_v11_1 m d)
theorem W7_v12 : (W7 m d (Proc.devRef .tc main_v12) : S10240x128.Idx → F .f32) = G1of m d :=
  (Cert.Kernel.HostPre.rsOp13_result_ne _ (by decide : main_v12 ≠ main_v13)).trans (W6_v12 m d)
theorem W7_v13 : (W7 m d (Proc.devRef .tc main_v13) : FVec F S1x128 .f32) = B1of m d := by
  unfold W7; rw [Cert.Kernel.HostPre.rsOp13_result, W6_arg9]; rfl

/-- After the TensorCore region that writes main_v14_0, main_v14_1. -/
def W8 : Valuation τ sig (Elt F) := V2' (W7 m d)
theorem W8_arg0 : (W8 m d (Proc.devRef .tc main_arg0) : FVec F S10000x128 .f32) = argOf m d main_arg0 :=
  (V2'_of_ne _ _ (dne main_arg0 main_v14_0) (dne main_arg0 main_v14_1)).trans (W7_arg0 m d)
theorem W8_arg1 : (W8 m d (Proc.devRef .tc main_arg1) : IVec S2x320000 32) = argOf m d main_arg1 :=
  (V2'_of_ne _ _ (dne main_arg1 main_v14_0) (dne main_arg1 main_v14_1)).trans (W7_arg1 m d)
theorem W8_arg2 : (W8 m d (Proc.devRef .tc main_arg2) : FVec F S128x128 .f32) = argOf m d main_arg2 :=
  (V2'_of_ne _ _ (dne main_arg2 main_v14_0) (dne main_arg2 main_v14_1)).trans (W7_arg2 m d)
theorem W8_arg3 : (W8 m d (Proc.devRef .tc main_arg3) : FVec F S128x128 .f32) = argOf m d main_arg3 :=
  (V2'_of_ne _ _ (dne main_arg3 main_v14_0) (dne main_arg3 main_v14_1)).trans (W7_arg3 m d)
theorem W8_arg4 : (W8 m d (Proc.devRef .tc main_arg4) : FVec F S128x128 .f32) = argOf m d main_arg4 :=
  (V2'_of_ne _ _ (dne main_arg4 main_v14_0) (dne main_arg4 main_v14_1)).trans (W7_arg4 m d)
theorem W8_arg5 : (W8 m d (Proc.devRef .tc main_arg5) : FVec F S128 .f32) = argOf m d main_arg5 :=
  (V2'_of_ne _ _ (dne main_arg5 main_v14_0) (dne main_arg5 main_v14_1)).trans (W7_arg5 m d)
theorem W8_arg6 : (W8 m d (Proc.devRef .tc main_arg6) : FVec F S128x128 .f32) = argOf m d main_arg6 :=
  (V2'_of_ne _ _ (dne main_arg6 main_v14_0) (dne main_arg6 main_v14_1)).trans (W7_arg6 m d)
theorem W8_arg7 : (W8 m d (Proc.devRef .tc main_arg7) : FVec F S128x128 .f32) = argOf m d main_arg7 :=
  (V2'_of_ne _ _ (dne main_arg7 main_v14_0) (dne main_arg7 main_v14_1)).trans (W7_arg7 m d)
theorem W8_arg8 : (W8 m d (Proc.devRef .tc main_arg8) : FVec F S128x128 .f32) = argOf m d main_arg8 :=
  (V2'_of_ne _ _ (dne main_arg8 main_v14_0) (dne main_arg8 main_v14_1)).trans (W7_arg8 m d)
theorem W8_arg9 : (W8 m d (Proc.devRef .tc main_arg9) : FVec F S128 .f32) = argOf m d main_arg9 :=
  (V2'_of_ne _ _ (dne main_arg9 main_v14_0) (dne main_arg9 main_v14_1)).trans (W7_arg9 m d)
theorem W8_arg10 : (W8 m d (Proc.devRef .tc main_arg10) : FVec F S128x128 .f32) = argOf m d main_arg10 :=
  (V2'_of_ne _ _ (dne main_arg10 main_v14_0) (dne main_arg10 main_v14_1)).trans (W7_arg10 m d)
theorem W8_arg11 : (W8 m d (Proc.devRef .tc main_arg11) : FVec F S128x128 .f32) = argOf m d main_arg11 :=
  (V2'_of_ne _ _ (dne main_arg11 main_v14_0) (dne main_arg11 main_v14_1)).trans (W7_arg11 m d)
theorem W8_arg12 : (W8 m d (Proc.devRef .tc main_arg12) : FVec F S128x128 .f32) = argOf m d main_arg12 :=
  (V2'_of_ne _ _ (dne main_arg12 main_v14_0) (dne main_arg12 main_v14_1)).trans (W7_arg12 m d)
theorem W8_arg13 : (W8 m d (Proc.devRef .tc main_arg13) : FVec F S128 .f32) = argOf m d main_arg13 :=
  (V2'_of_ne _ _ (dne main_arg13 main_v14_0) (dne main_arg13 main_v14_1)).trans (W7_arg13 m d)
theorem W8_v7 : (W8 m d (Proc.devRef .tc main_v7) : IVec S32x10496 32) = IbOf m d :=
  (V2'_of_ne _ _ (dne main_v7 main_v14_0) (dne main_v7 main_v14_1)).trans (W7_v7 m d)
theorem W8_v11_1 : (W8 m d (Proc.devRef .tc main_v11_1) : FVec F S10000x128 .f32) = Z1of m d :=
  (V2'_of_ne _ _ (dne main_v11_1 main_v14_0) (dne main_v11_1 main_v14_1)).trans (W7_v11_1 m d)
theorem W8_v12 : (W8 m d (Proc.devRef .tc main_v12) : S10240x128.Idx → F .f32) = G1of m d :=
  (V2'_of_ne _ _ (dne main_v12 main_v14_0) (dne main_v12 main_v14_1)).trans (W7_v12 m d)
theorem W8_v13 : (W8 m d (Proc.devRef .tc main_v13) : FVec F S1x128 .f32) = B1of m d :=
  (V2'_of_ne _ _ (dne main_v13 main_v14_0) (dne main_v13 main_v14_1)).trans (W7_v13 m d)
theorem W8_v14_0 : (W8 m d (Proc.devRef .tc main_v14_0) : S10000x128.Idx → F .f32) = T2of m d := by
  unfold W8; rw [V2'_out6, W7_v11_1, W7_v12, W7_arg7, W7_v13]; rfl
theorem W8_v14_1 : (W8 m d (Proc.devRef .tc main_v14_1) : FVec F S10000x128 .f32) = Z2of m d := by
  unfold W8; rw [V2'_out7, W7_v11_1, W7_v12, W7_arg7, W7_v13, W7_arg10, W7_arg12]; rfl

/-- After the SparseCore call that writes main_v15: the neighbour sums of its table over the index table. -/
def W9 : Valuation τ sig (Elt F) :=
  Function.update (W8 m d) (Proc.devRef .tc main_v15) (gsumF (W8 m d (Proc.devRef .tc main_v14_0)) (W8 m d (Proc.devRef .tc main_v7)))
theorem W9_arg0 : (W9 m d (Proc.devRef .tc main_arg0) : FVec F S10000x128 .f32) = argOf m d main_arg0 :=
  (Function.update_of_ne (dne main_arg0 main_v15) _ _).trans (W8_arg0 m d)
theorem W9_arg1 : (W9 m d (Proc.devRef .tc main_arg1) : IVec S2x320000 32) = argOf m d main_arg1 :=
  (Function.update_of_ne (dne main_arg1 main_v15) _ _).trans (W8_arg1 m d)
theorem W9_arg2 : (W9 m d (Proc.devRef .tc main_arg2) : FVec F S128x128 .f32) = argOf m d main_arg2 :=
  (Function.update_of_ne (dne main_arg2 main_v15) _ _).trans (W8_arg2 m d)
theorem W9_arg3 : (W9 m d (Proc.devRef .tc main_arg3) : FVec F S128x128 .f32) = argOf m d main_arg3 :=
  (Function.update_of_ne (dne main_arg3 main_v15) _ _).trans (W8_arg3 m d)
theorem W9_arg4 : (W9 m d (Proc.devRef .tc main_arg4) : FVec F S128x128 .f32) = argOf m d main_arg4 :=
  (Function.update_of_ne (dne main_arg4 main_v15) _ _).trans (W8_arg4 m d)
theorem W9_arg5 : (W9 m d (Proc.devRef .tc main_arg5) : FVec F S128 .f32) = argOf m d main_arg5 :=
  (Function.update_of_ne (dne main_arg5 main_v15) _ _).trans (W8_arg5 m d)
theorem W9_arg6 : (W9 m d (Proc.devRef .tc main_arg6) : FVec F S128x128 .f32) = argOf m d main_arg6 :=
  (Function.update_of_ne (dne main_arg6 main_v15) _ _).trans (W8_arg6 m d)
theorem W9_arg7 : (W9 m d (Proc.devRef .tc main_arg7) : FVec F S128x128 .f32) = argOf m d main_arg7 :=
  (Function.update_of_ne (dne main_arg7 main_v15) _ _).trans (W8_arg7 m d)
theorem W9_arg8 : (W9 m d (Proc.devRef .tc main_arg8) : FVec F S128x128 .f32) = argOf m d main_arg8 :=
  (Function.update_of_ne (dne main_arg8 main_v15) _ _).trans (W8_arg8 m d)
theorem W9_arg9 : (W9 m d (Proc.devRef .tc main_arg9) : FVec F S128 .f32) = argOf m d main_arg9 :=
  (Function.update_of_ne (dne main_arg9 main_v15) _ _).trans (W8_arg9 m d)
theorem W9_arg10 : (W9 m d (Proc.devRef .tc main_arg10) : FVec F S128x128 .f32) = argOf m d main_arg10 :=
  (Function.update_of_ne (dne main_arg10 main_v15) _ _).trans (W8_arg10 m d)
theorem W9_arg11 : (W9 m d (Proc.devRef .tc main_arg11) : FVec F S128x128 .f32) = argOf m d main_arg11 :=
  (Function.update_of_ne (dne main_arg11 main_v15) _ _).trans (W8_arg11 m d)
theorem W9_arg12 : (W9 m d (Proc.devRef .tc main_arg12) : FVec F S128x128 .f32) = argOf m d main_arg12 :=
  (Function.update_of_ne (dne main_arg12 main_v15) _ _).trans (W8_arg12 m d)
theorem W9_arg13 : (W9 m d (Proc.devRef .tc main_arg13) : FVec F S128 .f32) = argOf m d main_arg13 :=
  (Function.update_of_ne (dne main_arg13 main_v15) _ _).trans (W8_arg13 m d)
theorem W9_v7 : (W9 m d (Proc.devRef .tc main_v7) : IVec S32x10496 32) = IbOf m d :=
  (Function.update_of_ne (dne main_v7 main_v15) _ _).trans (W8_v7 m d)
theorem W9_v14_0 : (W9 m d (Proc.devRef .tc main_v14_0) : S10000x128.Idx → F .f32) = T2of m d :=
  (Function.update_of_ne (dne main_v14_0 main_v15) _ _).trans (W8_v14_0 m d)
theorem W9_v14_1 : (W9 m d (Proc.devRef .tc main_v14_1) : FVec F S10000x128 .f32) = Z2of m d :=
  (Function.update_of_ne (dne main_v14_1 main_v15) _ _).trans (W8_v14_1 m d)
theorem W9_v15 : (W9 m d (Proc.devRef .tc main_v15) : S10240x128.Idx → F .f32) = G2of m d := by
  unfold W9; rw [Function.update_self, W8_v14_0, W8_v7]; rfl

/-- After the reshape of a bias into a row. -/
def W10 : Valuation τ sig (Elt F) := (Cert.Kernel.HostPre.rsOp16 (F := F)).result (W9 m d)
theorem W10_arg0 : (W10 m d (Proc.devRef .tc main_arg0) : FVec F S10000x128 .f32) = argOf m d main_arg0 :=
  (Cert.Kernel.HostPre.rsOp16_result_ne _ (by decide : main_arg0 ≠ main_v16)).trans (W9_arg0 m d)
theorem W10_arg1 : (W10 m d (Proc.devRef .tc main_arg1) : IVec S2x320000 32) = argOf m d main_arg1 :=
  (Cert.Kernel.HostPre.rsOp16_result_ne _ (by decide : main_arg1 ≠ main_v16)).trans (W9_arg1 m d)
theorem W10_arg2 : (W10 m d (Proc.devRef .tc main_arg2) : FVec F S128x128 .f32) = argOf m d main_arg2 :=
  (Cert.Kernel.HostPre.rsOp16_result_ne _ (by decide : main_arg2 ≠ main_v16)).trans (W9_arg2 m d)
theorem W10_arg3 : (W10 m d (Proc.devRef .tc main_arg3) : FVec F S128x128 .f32) = argOf m d main_arg3 :=
  (Cert.Kernel.HostPre.rsOp16_result_ne _ (by decide : main_arg3 ≠ main_v16)).trans (W9_arg3 m d)
theorem W10_arg4 : (W10 m d (Proc.devRef .tc main_arg4) : FVec F S128x128 .f32) = argOf m d main_arg4 :=
  (Cert.Kernel.HostPre.rsOp16_result_ne _ (by decide : main_arg4 ≠ main_v16)).trans (W9_arg4 m d)
theorem W10_arg5 : (W10 m d (Proc.devRef .tc main_arg5) : FVec F S128 .f32) = argOf m d main_arg5 :=
  (Cert.Kernel.HostPre.rsOp16_result_ne _ (by decide : main_arg5 ≠ main_v16)).trans (W9_arg5 m d)
theorem W10_arg6 : (W10 m d (Proc.devRef .tc main_arg6) : FVec F S128x128 .f32) = argOf m d main_arg6 :=
  (Cert.Kernel.HostPre.rsOp16_result_ne _ (by decide : main_arg6 ≠ main_v16)).trans (W9_arg6 m d)
theorem W10_arg7 : (W10 m d (Proc.devRef .tc main_arg7) : FVec F S128x128 .f32) = argOf m d main_arg7 :=
  (Cert.Kernel.HostPre.rsOp16_result_ne _ (by decide : main_arg7 ≠ main_v16)).trans (W9_arg7 m d)
theorem W10_arg8 : (W10 m d (Proc.devRef .tc main_arg8) : FVec F S128x128 .f32) = argOf m d main_arg8 :=
  (Cert.Kernel.HostPre.rsOp16_result_ne _ (by decide : main_arg8 ≠ main_v16)).trans (W9_arg8 m d)
theorem W10_arg9 : (W10 m d (Proc.devRef .tc main_arg9) : FVec F S128 .f32) = argOf m d main_arg9 :=
  (Cert.Kernel.HostPre.rsOp16_result_ne _ (by decide : main_arg9 ≠ main_v16)).trans (W9_arg9 m d)
theorem W10_arg10 : (W10 m d (Proc.devRef .tc main_arg10) : FVec F S128x128 .f32) = argOf m d main_arg10 :=
  (Cert.Kernel.HostPre.rsOp16_result_ne _ (by decide : main_arg10 ≠ main_v16)).trans (W9_arg10 m d)
theorem W10_arg11 : (W10 m d (Proc.devRef .tc main_arg11) : FVec F S128x128 .f32) = argOf m d main_arg11 :=
  (Cert.Kernel.HostPre.rsOp16_result_ne _ (by decide : main_arg11 ≠ main_v16)).trans (W9_arg11 m d)
theorem W10_arg12 : (W10 m d (Proc.devRef .tc main_arg12) : FVec F S128x128 .f32) = argOf m d main_arg12 :=
  (Cert.Kernel.HostPre.rsOp16_result_ne _ (by decide : main_arg12 ≠ main_v16)).trans (W9_arg12 m d)
theorem W10_arg13 : (W10 m d (Proc.devRef .tc main_arg13) : FVec F S128 .f32) = argOf m d main_arg13 :=
  (Cert.Kernel.HostPre.rsOp16_result_ne _ (by decide : main_arg13 ≠ main_v16)).trans (W9_arg13 m d)
theorem W10_v14_1 : (W10 m d (Proc.devRef .tc main_v14_1) : FVec F S10000x128 .f32) = Z2of m d :=
  (Cert.Kernel.HostPre.rsOp16_result_ne _ (by decide : main_v14_1 ≠ main_v16)).trans (W9_v14_1 m d)
theorem W10_v15 : (W10 m d (Proc.devRef .tc main_v15) : S10240x128.Idx → F .f32) = G2of m d :=
  (Cert.Kernel.HostPre.rsOp16_result_ne _ (by decide : main_v15 ≠ main_v16)).trans (W9_v15 m d)
theorem W10_v16 : (W10 m d (Proc.devRef .tc main_v16) : FVec F S1x128 .f32) = B2of m d := by
  unfold W10; rw [Cert.Kernel.HostPre.rsOp16_result, W9_arg13]; rfl

/-- After the TensorCore region that writes main_v17. -/
def W11 : Valuation τ sig (Elt F) := V3' (W10 m d)
theorem W11_arg0 : (W11 m d (Proc.devRef .tc main_arg0) : FVec F S10000x128 .f32) = argOf m d main_arg0 :=
  (V3'_of_ne _ _ (dne main_arg0 main_v17)).trans (W10_arg0 m d)
theorem W11_arg1 : (W11 m d (Proc.devRef .tc main_arg1) : IVec S2x320000 32) = argOf m d main_arg1 :=
  (V3'_of_ne _ _ (dne main_arg1 main_v17)).trans (W10_arg1 m d)
theorem W11_arg2 : (W11 m d (Proc.devRef .tc main_arg2) : FVec F S128x128 .f32) = argOf m d main_arg2 :=
  (V3'_of_ne _ _ (dne main_arg2 main_v17)).trans (W10_arg2 m d)
theorem W11_arg3 : (W11 m d (Proc.devRef .tc main_arg3) : FVec F S128x128 .f32) = argOf m d main_arg3 :=
  (V3'_of_ne _ _ (dne main_arg3 main_v17)).trans (W10_arg3 m d)
theorem W11_arg4 : (W11 m d (Proc.devRef .tc main_arg4) : FVec F S128x128 .f32) = argOf m d main_arg4 :=
  (V3'_of_ne _ _ (dne main_arg4 main_v17)).trans (W10_arg4 m d)
theorem W11_arg5 : (W11 m d (Proc.devRef .tc main_arg5) : FVec F S128 .f32) = argOf m d main_arg5 :=
  (V3'_of_ne _ _ (dne main_arg5 main_v17)).trans (W10_arg5 m d)
theorem W11_arg6 : (W11 m d (Proc.devRef .tc main_arg6) : FVec F S128x128 .f32) = argOf m d main_arg6 :=
  (V3'_of_ne _ _ (dne main_arg6 main_v17)).trans (W10_arg6 m d)
theorem W11_arg7 : (W11 m d (Proc.devRef .tc main_arg7) : FVec F S128x128 .f32) = argOf m d main_arg7 :=
  (V3'_of_ne _ _ (dne main_arg7 main_v17)).trans (W10_arg7 m d)
theorem W11_arg8 : (W11 m d (Proc.devRef .tc main_arg8) : FVec F S128x128 .f32) = argOf m d main_arg8 :=
  (V3'_of_ne _ _ (dne main_arg8 main_v17)).trans (W10_arg8 m d)
theorem W11_arg9 : (W11 m d (Proc.devRef .tc main_arg9) : FVec F S128 .f32) = argOf m d main_arg9 :=
  (V3'_of_ne _ _ (dne main_arg9 main_v17)).trans (W10_arg9 m d)
theorem W11_arg10 : (W11 m d (Proc.devRef .tc main_arg10) : FVec F S128x128 .f32) = argOf m d main_arg10 :=
  (V3'_of_ne _ _ (dne main_arg10 main_v17)).trans (W10_arg10 m d)
theorem W11_arg11 : (W11 m d (Proc.devRef .tc main_arg11) : FVec F S128x128 .f32) = argOf m d main_arg11 :=
  (V3'_of_ne _ _ (dne main_arg11 main_v17)).trans (W10_arg11 m d)
theorem W11_arg12 : (W11 m d (Proc.devRef .tc main_arg12) : FVec F S128x128 .f32) = argOf m d main_arg12 :=
  (V3'_of_ne _ _ (dne main_arg12 main_v17)).trans (W10_arg12 m d)
theorem W11_arg13 : (W11 m d (Proc.devRef .tc main_arg13) : FVec F S128 .f32) = argOf m d main_arg13 :=
  (V3'_of_ne _ _ (dne main_arg13 main_v17)).trans (W10_arg13 m d)
theorem W11_v14_1 : (W11 m d (Proc.devRef .tc main_v14_1) : FVec F S10000x128 .f32) = Z2of m d :=
  (V3'_of_ne _ _ (dne main_v14_1 main_v17)).trans (W10_v14_1 m d)
theorem W11_v15 : (W11 m d (Proc.devRef .tc main_v15) : S10240x128.Idx → F .f32) = G2of m d :=
  (V3'_of_ne _ _ (dne main_v15 main_v17)).trans (W10_v15 m d)
theorem W11_v16 : (W11 m d (Proc.devRef .tc main_v16) : FVec F S1x128 .f32) = B2of m d :=
  (V3'_of_ne _ _ (dne main_v16 main_v17)).trans (W10_v16 m d)
theorem W11_v17 : (W11 m d (Proc.devRef .tc main_v17) : S10000x128.Idx → F .f32) = ResOf m d := by
  unfold W11; rw [V3'_out4, W10_v14_1, W10_v15, W10_arg11, W10_v16]; rfl

end Cert.Proof.KB

end
-- ==== Proof.ScCallK.lean ====
import proofs.«205366_g3083786518796_cont_9to1_852_38_alg».proof.Proof.ScPayK
import proofs.«205366_g3083786518796_cont_9to1_852_38_alg».proof.Proof.GSumK
import Idealize.ShloMosaic.Lib.SparseCore.Threads

noncomputable section

/-!
# The TensorCore at a SparseCore call

Before a call the TensorCore holds the table, the index table and the output whole.  It hands each SparseCore a read
token of the two tables and its sixteen workers' output rows (the 32 blocks of 320 rows tile the 10240), keeps the
remainders of the tables, and after the call joins everything back: every worker's rows are its tree sums, so the
whole output is the one array `gsumF` of the table and the index table.
-/

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 3) (Elt F) ℕ UU ℕ

/-! ## The workers' numbering and rows -/

/-- Tile `i` of SparseCore `c` is worker `2·i + c`: a bijection onto the 32 workers. -/
def widEquiv : Fin 2 × Fin 16 ≃ Fin 32 where
  toFun ci := wid ci.1 ci.2
  invFun w := (⟨w.val % 2, Nat.mod_lt _ (by decide)⟩, ⟨w.val / 2, by omega⟩)
  left_inv := by
    rintro ⟨c, i⟩
    refine Prod.ext (Fin.ext ?_) (Fin.ext ?_)
    · show (2 * i.val + c.val) % 2 = c.val; omega
    · show (2 * i.val + c.val) / 2 = i.val; omega
  right_inv := by
    intro w
    refine Fin.ext ?_
    show 2 * (w.val / 2) + w.val % 2 = w.val; omega

/-- An index is in worker `w`'s rows iff its row is one of the 320 from `320·w`. -/
theorem mem_outRect (w : Fin 32) (i : S10240x128.Idx) : i ∈ (outRect w).set ↔ 320 * w.val ≤ (i 0).val ∧ (i 0).val < 320 * w.val + 320 := by
  unfold outRect
  rw [Rect.mem_set_unit]
  constructor
  · intro h; exact h 0
  · intro h a
    match a with
    | ⟨0, _⟩ => exact h
    | ⟨1, _⟩ => exact ⟨Nat.zero_le _, by have := ValueIdx.idx2_lt1 i; show (i 1).val < 0 + 128; omega⟩

/-- Different workers' rows are disjoint, and the 32 blocks are all the rows. -/
theorem outRect_disjoint (w w' : Fin 32) (h : w ≠ w') : Disjoint (outRect w).set (outRect w').set :=
  Finset.disjoint_left.mpr fun i hi hi' => by
    rw [mem_outRect] at hi hi'
    exact h (Fin.ext (by omega))
theorem outRect_cover : (Finset.univ : Finset (Fin 32)).biUnion (fun w => (outRect w).set) = Finset.univ := by
  refine Finset.eq_univ_iff_forall.mpr fun i => Finset.mem_biUnion.mpr ?_
  have hi := ValueIdx.idx2_lt0 i
  refine ⟨⟨(i 0).val / 320, by omega⟩, Finset.mem_univ _, ?_⟩
  rw [mem_outRect]
  show 320 * ((i 0).val / 320) ≤ (i 0).val ∧ (i 0).val < 320 * ((i 0).val / 320) + 320
  omega

/-- An output that has a worker's tree sums on its rows agrees there with the one array. -/
theorem agree_of_sumRel [FloatOps F] (Tc : S10000x128.Idx → F .f32) (I : S32x10496.Idx → BitVec 32) (w : Fin 32)
    (fo : S10240x128.Idx → F .f32) (h : SumRel w Tc I fo) : ∀ i ∈ (outRect w).set, fo i = gsumF Tc I i := by
  intro i hi
  rw [mem_outRect] at hi
  have e : i = ValueIdx.ix2 (⟨320 * w.val + ((i 0).val - 320 * w.val), by omega⟩ : Fin 10240) (i 1) := by
    funext a
    match a with
    | ⟨0, _⟩ => exact Fin.ext (by show (i 0).val = 320 * w.val + ((i 0).val - 320 * w.val); omega)
    | ⟨1, _⟩ => rfl
  rw [e]
  exact (h ⟨(i 0).val - 320 * w.val, by omega⟩ (i 1)).trans (gsumF_rel Tc I w ⟨(i 0).val - 320 * w.val, by omega⟩ (i 1)).symm

/-- The big star over the two SparseCores, spelt out. -/
theorem bigSep_two {M : Type} [URA M] (Φ : Fin 2 → sProp M) : bigSep Finset.univ Φ = iprop(Φ 0 ∗ Φ 1) := bigSep_fin_two Φ

/-! ## One call, over its locations -/

section Call

variable (ℓt ℓi ℓo : Loc nD τ sig) (RowsO : Fin 32 → Finset (Idx ℓo))
variable (wrT : (S10000x128.Idx → F .f32) → Buf (Elt F) ℓt) (wrI : (S32x10496.Idx → BitVec 32) → Buf (Elt F) ℓi)
variable (rdO : Buf (Elt F) ℓo → S10240x128.Idx → F .f32) (wrO : (S10240x128.Idx → F .f32) → Buf (Elt F) ℓo)
variable (Tq : S10000x128.Idx → F .f32) (Iq : S32x10496.Idx → BitVec 32)

/-- A whole array is its remainder after two read tokens and the two SparseCores' tokens. -/
theorem toks2 (ℓ : Loc nD τ sig) (f : Buf (Elt F) ℓ) :
    (ℓ ↦{fullShare} f : sProp 𝕄) ⊣⊢ iprop((ℓ ↦{shareDrop fullShare 2} f) ∗ (ℓ ↦{coreShare 0} f) ∗ (ℓ ↦{coreShare 1} f)) := by
  have h := Transfers.pointsTo_toks (ℓ := ℓ) (S := Finset.univ) (f := f) (Ix := HIx 3) (Name := ℕ) (U := UU) (Lvl := ℕ) fullShare 2
  rwa [bigSep_two] at h

/-- The whole output is the 32 workers' rows, grouped by SparseCore. -/
theorem rows_split (hdisj : ∀ w w' : Fin 32, w ≠ w' → Disjoint (RowsO w) (RowsO w'))
    (hcover : (Finset.univ : Finset (Fin 32)).biUnion RowsO = Finset.univ) (f : Buf (Elt F) ℓo) :
    (ℓo ↦{fullShare} f : sProp 𝕄)
      = iprop((bigSep Finset.univ fun i : Fin 16 => ℓo ↦[RowsO (wid 0 i)]{fullShare} f)
          ∗ (bigSep Finset.univ fun i : Fin 16 => ℓo ↦[RowsO (wid 1 i)]{fullShare} f)) := by
  rw [show (ℓo ↦{fullShare} f : sProp 𝕄) = (ℓo ↦[(Finset.univ : Finset (Fin 32)).biUnion RowsO]{fullShare} f) by rw [hcover],
    pointsTo_biUnion Finset.univ RowsO (fun w _ w' _ h => hdisj w w' h),
    bigSep_univ_equiv widEquiv, bigSep_univ_prod, bigSep_two]
  rfl

/-- Rows held at some contents; rows at a worker's tree sums are rows of the one array. -/
theorem row_ex (R : Finset (Idx ℓo)) (f : Buf (Elt F) ℓo) : (ℓo ↦[R]{fullShare} f : sProp 𝕄) ⊢ iprop(∃ fo, ℓo ↦[R]{fullShare} fo) := by
  iintro H; iexists f; iexact H
theorem row_congr [FloatOps F]
    (hmem : ∀ (w : Fin 32) (fo : Buf (Elt F) ℓo), SumRel w Tq Iq (rdO fo) → ∀ i ∈ RowsO w, fo i = wrO (gsumF Tq Iq) i) (w : Fin 32) :
    (iprop(∃ fo, (ℓo ↦[RowsO w]{fullShare} fo) ∗ ⌜SumRel w Tq Iq (rdO fo)⌝) : sProp 𝕄) ⊢ (ℓo ↦[RowsO w]{fullShare} wrO (gsumF Tq Iq) : sProp 𝕄) := by
  iintro ⟨%fo, Ho, %hs⟩
  rw [← pointsTo_congr (hmem w fo hs)]
  iexact Ho

/-- Before the call: each SparseCore gets its tokens of the two tables, its workers' output rows and its tiles' barrier
    cells; the TensorCore keeps the tables' remainders. -/
theorem st_intro (hdisj : ∀ w w' : Fin 32, w ≠ w' → Disjoint (RowsO w) (RowsO w'))
    (hcover : (Finset.univ : Finset (Fin 32)).biUnion RowsO = Finset.univ) (q : ℕ) (d : Dev nD) :
    iprop((ℓt ↦{fullShare} wrT Tq) ∗ (ℓi ↦{fullShare} wrI Iq) ∗ ⌜∀ w, IdxOk w Iq⌝ ∗ (∃ f, ℓo ↦{fullShare} f)
        ∗ bigSep Finset.univ (fun ci : Fin 2 × Fin 16 => barCarry (F := F) q d (ci.1.castLE (by decide)) (ci.2.castLE (by decide))))
      ⊢ iprop((ℓt ↦{shareDrop fullShare 2} wrT Tq) ∗ (ℓi ↦{shareDrop fullShare 2} wrI Iq)
          ∗ bigSep Finset.univ fun c : Fin 2 => stPay ℓt ℓi ℓo RowsO wrT wrI Tq Iq q d c) := by
  rw [bigSep_univ_prod]
  simp only [bigSep_two]
  unfold stPay
  have hex : ∀ (c : Fin 2) (f : Buf (Elt F) ℓo), (bigSep Finset.univ fun i : Fin 16 => (ℓo ↦[RowsO (wid c i)]{fullShare} f : sProp 𝕄))
      ⊢ bigSep Finset.univ fun i : Fin 16 => (iprop(∃ fo, ℓo ↦[RowsO (wid c i)]{fullShare} fo) : sProp 𝕄) := fun c f =>
    bigSep_mono fun i _ => row_ex ℓo (RowsO (wid c i)) f
  iintro ⟨Ht, Hi, %hok, ⟨%f, Ho⟩, Hb0, Hb1⟩
  ihave Ht' := (toks2 ℓt (wrT Tq)).1 $$ Ht
  icases Ht' with ⟨Htd, Ht0, Ht1⟩
  ihave Hi' := (toks2 ℓi (wrI Iq)).1 $$ Hi
  icases Hi' with ⟨Hid, Hi0, Hi1⟩
  ihave Ho' := (Entails.of_eq (rows_split ℓo RowsO hdisj hcover f)) $$ Ho
  icases Ho' with ⟨Ho0, Ho1⟩
  isplitl [Htd]; · iexact Htd
  isplitl [Hid]; · iexact Hid
  isplitl [Ht0 Hi0 Ho0 Hb0]
  · isplitl [Ht0]; · iexact Ht0
    isplitl [Hi0]; · iexact Hi0
    isplitr; · ipureintro; exact hok
    isplitl [Ho0]
    · iapply (hex 0 f)
      iexact Ho0
    iexact Hb0
  · isplitl [Ht1]; · iexact Ht1
    isplitl [Hi1]; · iexact Hi1
    isplitr; · ipureintro; exact hok
    isplitl [Ho1]
    · iapply (hex 1 f)
      iexact Ho1
    iexact Hb1

/-- After the call: the tokens join the remainders, and the workers' rows — each at its tree sums, so each agreeing with
    the one array on its rows — join into the whole output at that array. -/
theorem dn_elim [FloatOps F] (hdisj : ∀ w w' : Fin 32, w ≠ w' → Disjoint (RowsO w) (RowsO w'))
    (hcover : (Finset.univ : Finset (Fin 32)).biUnion RowsO = Finset.univ)
    (hmem : ∀ (w : Fin 32) (fo : Buf (Elt F) ℓo), SumRel w Tq Iq (rdO fo) → ∀ i ∈ RowsO w, fo i = wrO (gsumF Tq Iq) i)
    (q : ℕ) (d : Dev nD) :
    iprop((ℓt ↦{shareDrop fullShare 2} wrT Tq) ∗ (ℓi ↦{shareDrop fullShare 2} wrI Iq)
        ∗ bigSep Finset.univ fun c : Fin 2 => dnPay ℓt ℓi ℓo RowsO wrT wrI rdO Tq Iq q d c)
      ⊢ iprop((ℓt ↦{fullShare} wrT Tq) ∗ (ℓi ↦{fullShare} wrI Iq) ∗ (ℓo ↦{fullShare} wrO (gsumF Tq Iq))
          ∗ bigSep Finset.univ (fun ci : Fin 2 × Fin 16 => barCarry (F := F) (q + 1) d (ci.1.castLE (by decide)) (ci.2.castLE (by decide)))) := by
  rw [bigSep_univ_prod]
  simp only [bigSep_two]
  unfold dnPay
  have hrow : ∀ c : Fin 2, (bigSep Finset.univ fun i : Fin 16 =>
        (iprop(∃ fo, (ℓo ↦[RowsO (wid c i)]{fullShare} fo) ∗ ⌜SumRel (wid c i) Tq Iq (rdO fo)⌝) : sProp 𝕄))
      ⊢ bigSep Finset.univ fun i : Fin 16 => (ℓo ↦[RowsO (wid c i)]{fullShare} wrO (gsumF Tq Iq) : sProp 𝕄) := fun c =>
    bigSep_mono fun i _ => row_congr ℓo RowsO rdO wrO Tq Iq hmem (wid c i)
  iintro ⟨Htd, Hid, ⟨Ht0, Hi0, Ho0, Hb0⟩, ⟨Ht1, Hi1, Ho1, Hb1⟩⟩
  isplitl [Htd Ht0 Ht1]
  · iapply (toks2 ℓt (wrT Tq)).2
    isplitl [Htd]; · iexact Htd
    isplitl [Ht0]; · iexact Ht0
    iexact Ht1
  isplitl [Hid Hi0 Hi1]
  · iapply (toks2 ℓi (wrI Iq)).2
    isplitl [Hid]; · iexact Hid
    isplitl [Hi0]; · iexact Hi0
    iexact Hi1
  isplitl [Ho0 Ho1]
  · iapply (Entails.of_eq (rows_split ℓo RowsO hdisj hcover (wrO (gsumF Tq Iq))).symm)
    isplitl [Ho0]
    · iapply (hrow 0); iexact Ho0
    · iapply (hrow 1); iexact Ho1
  isplitl [Hb0]; · iexact Hb0
  iexact Hb1

end Call

/-! ## The three calls -/

variable [FloatOps F] (Tb : Fin 3 → Dev nD → S10000x128.Idx → F .f32) (Ib : Dev nD → S32x10496.Idx → BitVec 32)

/-- CALL 0: from the TensorCore's state before it, the table, the index table (every entry naming a row) and the output
    whole, and the tiles' barrier cells at round 0, the call runs on to the state after it, the tables back whole, the
    output at the neighbour sums of the table, and the barrier cells one round on. -/
theorem wp_call0 (κ : GSem nD τ sig → ℕ) (lv : GSem nD τ sig → HIx 3 → ℕ) (hlv : (K (F := F)).Refines lv) (d : Dev nD) {Φ : PUnit → sProp 𝕄} :
    iprop((K (F := F)).ctx EH (P Tb Ib) κ lv ∗ (K (F := F)).tcSt EH d 0
        ∗ (tab0 d ↦{fullShare} wrT0 d (Tb 0 d)) ∗ (idxLoc d ↦{fullShare} wrI d (Ib d)) ∗ ⌜∀ w, IdxOk w (Ib d)⌝
        ∗ (∃ f, out0 d ↦{fullShare} f)
        ∗ (bigSep Finset.univ fun ci : Fin 2 × Fin 16 => barCarry (F := F) 0 d (ci.1.castLE (by decide)) (ci.2.castLE (by decide)))
        ∗ (iprop((K (F := F)).tcSt EH d 1
              ∗ (tab0 d ↦{fullShare} wrT0 d (Tb 0 d)) ∗ (idxLoc d ↦{fullShare} wrI d (Ib d))
              ∗ (out0 d ↦{fullShare} (gsumF (Tb 0 d) (Ib d) : Buf (Elt F) (out0 d)))
              ∗ bigSep Finset.univ fun ci : Fin 2 × Fin 16 => barCarry (F := F) 1 d (ci.1.castLE (by decide)) (ci.2.castLE (by decide)))
            -∗ Φ ⟨⟩))
      ⊢ wp frame (wpE ((K (F := F)).defs D) 𝒱 (T d) none) Set.univ ((K (F := F)).run d 0) Φ := by
  iintro ⟨#Hctx, Hst, Ht, Hi, %hok, Ho, Hb, Hk⟩
  ihave Hs := (st_intro (tab0 d) (idxLoc d) (out0 d) (fun w => (outRect w).set) (wrT0 d) (wrI d) (Tb 0 d) (Ib d)
    outRect_disjoint outRect_cover 0 d) $$ [Ht Hi Ho Hb]
  · isplitl [Ht]; · iexact Ht
    isplitl [Hi]; · iexact Hi
    isplitr; · ipureintro; exact hok
    isplitl [Ho]; · iexact Ho
    iexact Hb
  icases Hs with ⟨Htd, Hid, Hst2⟩
  iapply ((K (F := F)).wp_run (D (F := F)) 𝒱 (EH := EH) (P := P Tb Ib) κ d 0 lv hlv)
  isplitr; · iexact Hctx
  isplitl [Hst]; · iexact Hst
  isplitl [Hst2]; · iexact Hst2
  iintro ⟨Hst, Hdn⟩
  iapply Hk
  isplitl [Hst]; · iexact Hst
  iapply (dn_elim (tab0 d) (idxLoc d) (out0 d) (fun w => (outRect w).set) (wrT0 d) (wrI d) (rdO0 d) (fun f => f) (Tb 0 d) (Ib d)
    outRect_disjoint outRect_cover (fun w fo h => agree_of_sumRel (Tb 0 d) (Ib d) w fo h) 0 d)
  isplitl [Htd]; · iexact Htd
  isplitl [Hid]; · iexact Hid
  iexact Hdn

/-- CALL 1: from the TensorCore's state before it, the table, the index table (every entry naming a row) and the output
    whole, and the tiles' barrier cells at round 1, the call runs on to the state after it, the tables back whole, the
    output at the neighbour sums of the table, and the barrier cells one round on. -/
theorem wp_call1 (κ : GSem nD τ sig → ℕ) (lv : GSem nD τ sig → HIx 3 → ℕ) (hlv : (K (F := F)).Refines lv) (d : Dev nD) {Φ : PUnit → sProp 𝕄} :
    iprop((K (F := F)).ctx EH (P Tb Ib) κ lv ∗ (K (F := F)).tcSt EH d 1
        ∗ (tab1 d ↦{fullShare} wrT1 d (Tb 1 d)) ∗ (idxLoc d ↦{fullShare} wrI d (Ib d)) ∗ ⌜∀ w, IdxOk w (Ib d)⌝
        ∗ (∃ f, out1 d ↦{fullShare} f)
        ∗ (bigSep Finset.univ fun ci : Fin 2 × Fin 16 => barCarry (F := F) 1 d (ci.1.castLE (by decide)) (ci.2.castLE (by decide)))
        ∗ (iprop((K (F := F)).tcSt EH d 2
              ∗ (tab1 d ↦{fullShare} wrT1 d (Tb 1 d)) ∗ (idxLoc d ↦{fullShare} wrI d (Ib d))
              ∗ (out1 d ↦{fullShare} (gsumF (Tb 1 d) (Ib d) : Buf (Elt F) (out1 d)))
              ∗ bigSep Finset.univ fun ci : Fin 2 × Fin 16 => barCarry (F := F) 2 d (ci.1.castLE (by decide)) (ci.2.castLE (by decide)))
            -∗ Φ ⟨⟩))
      ⊢ wp frame (wpE ((K (F := F)).defs D) 𝒱 (T d) none) Set.univ ((K (F := F)).run d 1) Φ := by
  iintro ⟨#Hctx, Hst, Ht, Hi, %hok, Ho, Hb, Hk⟩
  ihave Hs := (st_intro (tab1 d) (idxLoc d) (out1 d) (fun w => (outRect w).set) (wrT1 d) (wrI d) (Tb 1 d) (Ib d)
    outRect_disjoint outRect_cover 1 d) $$ [Ht Hi Ho Hb]
  · isplitl [Ht]; · iexact Ht
    isplitl [Hi]; · iexact Hi
    isplitr; · ipureintro; exact hok
    isplitl [Ho]; · iexact Ho
    iexact Hb
  icases Hs with ⟨Htd, Hid, Hst2⟩
  iapply ((K (F := F)).wp_run (D (F := F)) 𝒱 (EH := EH) (P := P Tb Ib) κ d 1 lv hlv)
  isplitr; · iexact Hctx
  isplitl [Hst]; · iexact Hst
  isplitl [Hst2]; · iexact Hst2
  iintro ⟨Hst, Hdn⟩
  iapply Hk
  isplitl [Hst]; · iexact Hst
  iapply (dn_elim (tab1 d) (idxLoc d) (out1 d) (fun w => (outRect w).set) (wrT1 d) (wrI d) (rdO1 d) (fun f => f) (Tb 1 d) (Ib d)
    outRect_disjoint outRect_cover (fun w fo h => agree_of_sumRel (Tb 1 d) (Ib d) w fo h) 1 d)
  isplitl [Htd]; · iexact Htd
  isplitl [Hid]; · iexact Hid
  iexact Hdn

/-- CALL 2: from the TensorCore's state before it, the table, the index table (every entry naming a row) and the output
    whole, and the tiles' barrier cells at round 2, the call runs on to the state after it, the tables back whole, the
    output at the neighbour sums of the table, and the barrier cells one round on. -/
theorem wp_call2 (κ : GSem nD τ sig → ℕ) (lv : GSem nD τ sig → HIx 3 → ℕ) (hlv : (K (F := F)).Refines lv) (d : Dev nD) {Φ : PUnit → sProp 𝕄} :
    iprop((K (F := F)).ctx EH (P Tb Ib) κ lv ∗ (K (F := F)).tcSt EH d 2
        ∗ (tab2 d ↦{fullShare} wrT2 d (Tb 2 d)) ∗ (idxLoc d ↦{fullShare} wrI d (Ib d)) ∗ ⌜∀ w, IdxOk w (Ib d)⌝
        ∗ (∃ f, out2 d ↦{fullShare} f)
        ∗ (bigSep Finset.univ fun ci : Fin 2 × Fin 16 => barCarry (F := F) 2 d (ci.1.castLE (by decide)) (ci.2.castLE (by decide)))
        ∗ (iprop((K (F := F)).tcSt EH d 3
              ∗ (tab2 d ↦{fullShare} wrT2 d (Tb 2 d)) ∗ (idxLoc d ↦{fullShare} wrI d (Ib d))
              ∗ (out2 d ↦{fullShare} (gsumF (Tb 2 d) (Ib d) : Buf (Elt F) (out2 d)))
              ∗ bigSep Finset.univ fun ci : Fin 2 × Fin 16 => barCarry (F := F) 3 d (ci.1.castLE (by decide)) (ci.2.castLE (by decide)))
            -∗ Φ ⟨⟩))
      ⊢ wp frame (wpE ((K (F := F)).defs D) 𝒱 (T d) none) Set.univ ((K (F := F)).run d 2) Φ := by
  iintro ⟨#Hctx, Hst, Ht, Hi, %hok, Ho, Hb, Hk⟩
  ihave Hs := (st_intro (tab2 d) (idxLoc d) (out2 d) (fun w => (outRect w).set) (wrT2 d) (wrI d) (Tb 2 d) (Ib d)
    outRect_disjoint outRect_cover 2 d) $$ [Ht Hi Ho Hb]
  · isplitl [Ht]; · iexact Ht
    isplitl [Hi]; · iexact Hi
    isplitr; · ipureintro; exact hok
    isplitl [Ho]; · iexact Ho
    iexact Hb
  icases Hs with ⟨Htd, Hid, Hst2⟩
  iapply ((K (F := F)).wp_run (D (F := F)) 𝒱 (EH := EH) (P := P Tb Ib) κ d 2 lv hlv)
  isplitr; · iexact Hctx
  isplitl [Hst]; · iexact Hst
  isplitl [Hst2]; · iexact Hst2
  iintro ⟨Hst, Hdn⟩
  iapply Hk
  isplitl [Hst]; · iexact Hst
  iapply (dn_elim (tab2 d) (idxLoc d) (out2 d) (fun w => (outRect w).set) (wrT2 d) (wrI d) (rdO2 d) (fun f => f) (Tb 2 d) (Ib d)
    outRect_disjoint outRect_cover (fun w fo h => agree_of_sumRel (Tb 2 d) (Ib d) w fo h) 2 d)
  isplitl [Htd]; · iexact Htd
  isplitl [Hid]; · iexact Hid
  iexact Hdn

end Cert.Proof.KB

end
-- ==== Proof.ScStepsK.lean ====
/-
  The steps of @main on the TensorCore, over the set of arrays it holds whole: one array taken out of the set and put
  back, what the TensorCore owes between calls, the host prefix's buffers, and a SparseCore call (its operands handed
  to the two SparseCores as read tokens and output rows, its results taken back, the sums' array at its new contents).
-/
import proofs.«205366_g3083786518796_cont_9to1_852_38_alg».proof.Proof.ScFinK
import proofs.«205366_g3083786518796_cont_9to1_852_38_alg».proof.Proof.ScNamesK
import proofs.«205366_g3083786518796_cont_9to1_852_38_alg».proof.Proof.HostPrefixK
import proofs.«205366_g3083786518796_cont_9to1_852_38_alg».proof.Proof.ScGhostK
import proofs.«205366_g3083786518796_cont_9to1_852_38_alg».proof.Proof.TcHeldK
import proofs.«205366_g3083786518796_cont_9to1_852_38_alg».proof.Proof.ScValsK
import proofs.«205366_g3083786518796_cont_9to1_852_38_alg».proof.Proof.ScCallK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq)

variable {F : FTy → Type} [FloatOps F]

local notation "𝕄" => MT nD τ sig (HIx 3) (Elt F) ℕ UU ℕ

variable (m : (ℓ : Loc nD τ sig) → Buf (Elt F) ℓ) (ρ : Dev nD → PrngReg)

/-! ## The TensorCore's arrays -/

/-- The launch contents as a valuation. -/
def V0 (d : Dev nD) : Valuation τ sig (Elt F) := fun b => m (d, b)

theorem unscoped_held (d : Dev nD) :
    (unscopedBufs d (fun b => m ((SparseCore.T d).loc b)) : sProp 𝕄) = held (T d) Sall (V0 m d) := by
  exact unscopedBufs_Sall d (V0 m d)

/-! ## One array out of the held set, and back -/

theorem held_take {c : Thread nD τ} {S : Finset (DevRef τ sig)} {b : DevRef τ sig} (hb : b ∈ S) (W : Valuation τ sig (Elt F)) :
    (held c S W : sProp 𝕄) = iprop(((c.1, b) ↦{fullShare} W b) ∗ held c (S.erase b) W) := by
  unfold held; exact SparseCore.bigSep_erase' hb

theorem held_put {c : Thread nD τ} {S : Finset (DevRef τ sig)} {b : DevRef τ sig} (hb : b ∈ S) (W : Valuation τ sig (Elt F)) (f : b.ty.Contents (Elt F)) :
    (iprop(((c.1, b) ↦{fullShare} f) ∗ held c (S.erase b) W) : sProp 𝕄) = held c S (Function.update W b f) := by
  rw [held_take hb (Function.update W b f), Function.update_self,
    StableHlo.held_congr c (S := S.erase b) (V := Function.update W b f) (V' := W) fun x hx => Function.update_of_ne (Finset.ne_of_mem_erase hx) _ _]

/-! ## What the TensorCore owes between calls sits above every wait of a region -/

theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

/-- A region's waits are recorded at no call's index: the recorded pairs stay below any level. -/
theorem wbelow_of_none {d : Dev nD} {Wt Wt' : Waits sig (HIx 3)} {b : ℕ} (hW : (K (F := F)).WBelow (T d) Wt b)
    (h : ∀ p ∈ Wt', p ∈ Wt ∨ p.2 = none) : (K (F := F)).WBelow (T d) Wt' b := by
  intro p hp
  rcases h p hp with h | h
  · exact hW p h
  · rw [h]; exact Nat.zero_le _

/-! ## The host prefix -/

theorem Spre_sub : (Cert.Kernel.HostPre.Spre : Finset (DevRef τ sig)) ⊆ Sall := by
  intro b hb
  simp only [Cert.Kernel.HostPre.Spre, Finset.mem_insert, Finset.mem_singleton] at hb
  rcases hb with rfl | rfl | rfl | rfl | rfl | rfl | rfl | rfl | rfl | rfl | rfl | rfl <;> exact mem_Sall rfl

variable (hok : ∀ d w, IdxOk w (IbOf m d))

/-! ## A SparseCore call, over the held arrays -/

theorem pts_congr {ℓ : Loc nD τ sig} {q : PosShare TreeShare} {f g : Buf (Elt F) ℓ} (h : f = g) : (ℓ ↦{q} f : sProp 𝕄) ⊢ (ℓ ↦{q} g : sProp 𝕄) := by
  rw [h]

theorem held_erase_update {c : Thread nD τ} {S : Finset (DevRef τ sig)} {b : DevRef τ sig} (W : Valuation τ sig (Elt F)) (f : b.ty.Contents (Elt F)) :
    (held c (S.erase b) W : sProp 𝕄) = held c (S.erase b) (Function.update W b f) :=
  StableHlo.held_congr c fun x hx => (Function.update_of_ne (Finset.ne_of_mem_erase hx) _ _).symm

/-- The tiles' barrier cells, indexed by the topology's own ranges. -/
abbrev barAll (q : ℕ) (d : Dev nD) : sProp 𝕄 := bigSep Finset.univ fun ci : Fin τ.nSC × Fin τ.nSub => barCarry (F := F) q d ci.1 ci.2

set_option maxRecDepth 131072 in
include hok in
/-- The first call: `x`, the index table and the sums' array go to the two SparseCores and come back, the sums written. -/
theorem call_step0 (κ : GSem nD τ sig → ℕ) (d : Dev nD) {Φ : PUnit → sProp 𝕄} :
    iprop((K (F := F)).ctx EH (P (F := F) (TbOf m) (IbOf m)) κ ∗ (K (F := F)).tcSt EH d 0 ∗ held (T d) Sall (W1 m d) ∗ barAll 0 d
        ∗ (iprop((K (F := F)).tcSt EH d 1 ∗ held (T d) Sall (W2 m d) ∗ barAll 1 d) -∗ Φ ⟨⟩))
      ⊢ wp frame (wpE ((K (F := F)).defs (D (F := F))) 𝒱 (SparseCore.T d) none) Set.univ ((K (F := F)).run d 0) Φ := by
  have hW2 : W2 m d = Function.update (W1 m d) (Proc.devRef .tc main_v8) (gsumF (W1 m d (Proc.devRef .tc main_arg0)) (W1 m d (Proc.devRef .tc main_v7))) := rfl
  have hS : (held (T d) (((Sall.erase (Proc.devRef .tc main_arg0)).erase (Proc.devRef .tc main_v7)).erase (Proc.devRef .tc main_v8)) (W1 m d) : sProp 𝕄)
      = held (T d) (((Sall.erase (Proc.devRef .tc main_arg0)).erase (Proc.devRef .tc main_v7)).erase (Proc.devRef .tc main_v8)) (W2 m d) := by
    rw [hW2]; exact held_erase_update _ _
  iintro ⟨#Hctx, Hst, Hheld, Hbar, Hk⟩
  ihave H := (Entails.of_eq (held_take (mem_Sall (b := main_arg0) rfl) (W1 m d))) $$ Hheld
  icases H with ⟨Htab, Hheld⟩
  ihave H := (Entails.of_eq (held_take (Finset.mem_erase.mpr ⟨dne main_v7 main_arg0, mem_Sall (b := main_v7) rfl⟩) (W1 m d))) $$ Hheld
  icases H with ⟨Hidx, Hheld⟩
  ihave H := (Entails.of_eq (held_take (Finset.mem_erase.mpr ⟨dne main_v8 main_v7, Finset.mem_erase.mpr ⟨dne main_v8 main_arg0, mem_Sall (b := main_v8) rfl⟩⟩) (W1 m d))) $$ Hheld
  icases H with ⟨Hout, Hheld⟩
  iapply (wp_call0 (TbOf m) (IbOf m) κ (K (F := F)).lev (by sl_refines_lev) d) $$ [Hst Htab Hidx Hout Hbar Hheld Hk]
  isplitr; · iexact Hctx
  isplitl [Hst]; · iexact Hst
  isplitl [Htab]; · iapply (pts_congr (ℓ := tab0 d) (q := fullShare) (W1_arg0 m d)); iexact Htab
  isplitl [Hidx]; · iapply (pts_congr (ℓ := idxLoc d) (q := fullShare) (W1_v7 m d)); iexact Hidx
  isplitr; · ipureintro; exact hok d
  isplitl [Hout]; · iexists _; iexact Hout
  isplitl [Hbar]; · iexact Hbar
  iintro ⟨Hst, Htab, Hidx, Hout, Hbar⟩
  iapply Hk
  isplitl [Hst]; · iexact Hst
  isplitr [Hbar]
  · -- the three arrays back into the held set, the sums' array at its new contents
    ihave Hout := (pts_congr (ℓ := out0 d) (q := fullShare) (f := (gsumF (TbOf m 0 d) (IbOf m d) : S10240x128.Idx → F .f32)) (g := W2 m d (Proc.devRef .tc main_v8)) (W2_v8 m d).symm) $$ Hout
    ihave Hheld := (Entails.of_eq hS) $$ Hheld
    ihave Hheld := (Entails.of_eq (held_take (Finset.mem_erase.mpr ⟨dne main_v8 main_v7, Finset.mem_erase.mpr ⟨dne main_v8 main_arg0, mem_Sall (b := main_v8) rfl⟩⟩) (W2 m d)).symm) $$ [Hout Hheld]
    · isplitl [Hout] <;> iassumption
    ihave Hidx := (pts_congr (ℓ := idxLoc d) (q := fullShare) (W2_v7 m d).symm) $$ Hidx
    ihave Hheld := (Entails.of_eq (held_take (Finset.mem_erase.mpr ⟨dne main_v7 main_arg0, mem_Sall (b := main_v7) rfl⟩) (W2 m d)).symm) $$ [Hidx Hheld]
    · isplitl [Hidx] <;> iassumption
    ihave Htab := (pts_congr (ℓ := tab0 d) (q := fullShare) (f := wrT0 d (TbOf m 0 d)) (g := W2 m d (Proc.devRef .tc main_arg0)) (W2_arg0 m d).symm) $$ Htab
    iapply (Entails.of_eq (held_take (mem_Sall (b := main_arg0) rfl) (W2 m d)).symm)
    isplitl [Htab] <;> iassumption
  · iexact Hbar

end Cert.Proof.KB

end
-- ==== Proof.ScSteps12K.lean ====
/-
  The second and third SparseCore calls of @main, over the set of arrays the TensorCore holds whole: the call's
  table, the index table and the sums' array go to the two SparseCores and come back, the sums written.
-/
import proofs.«205366_g3083786518796_cont_9to1_852_38_alg».proof.Proof.ScStepsK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq)

variable {F : FTy → Type} [FloatOps F]

local notation "𝕄" => MT nD τ sig (HIx 3) (Elt F) ℕ UU ℕ

variable (m : (ℓ : Loc nD τ sig) → Buf (Elt F) ℓ) (ρ : Dev nD → PrngReg)

variable (hok : ∀ d w, IdxOk w (IbOf m d))

set_option maxRecDepth 131072 in
include hok in
/-- The second call: the first layer's result, the index table and the sums' array go to the two SparseCores and come back, the sums written. -/
theorem call_step1 (κ : GSem nD τ sig → ℕ) (d : Dev nD) {Φ : PUnit → sProp 𝕄} :
    iprop((K (F := F)).ctx EH (P (F := F) (TbOf m) (IbOf m)) κ ∗ (K (F := F)).tcSt EH d 1 ∗ held (T d) Sall (W5 m d) ∗ barAll 1 d
        ∗ (iprop((K (F := F)).tcSt EH d 2 ∗ held (T d) Sall (W6 m d) ∗ barAll 2 d) -∗ Φ ⟨⟩))
      ⊢ wp frame (wpE ((K (F := F)).defs (D (F := F))) 𝒱 (SparseCore.T d) none) Set.univ ((K (F := F)).run d 1) Φ := by
  have hW6 : W6 m d = Function.update (W5 m d) (Proc.devRef .tc main_v12) (gsumF (W5 m d (Proc.devRef .tc main_v11_0)) (W5 m d (Proc.devRef .tc main_v7))) := rfl
  have hS : (held (T d) (((Sall.erase (Proc.devRef .tc main_v11_0)).erase (Proc.devRef .tc main_v7)).erase (Proc.devRef .tc main_v12)) (W5 m d) : sProp 𝕄)
      = held (T d) (((Sall.erase (Proc.devRef .tc main_v11_0)).erase (Proc.devRef .tc main_v7)).erase (Proc.devRef .tc main_v12)) (W6 m d) := by
    rw [hW6]; exact held_erase_update _ _
  iintro ⟨#Hctx, Hst, Hheld, Hbar, Hk⟩
  ihave H := (Entails.of_eq (held_take (mem_Sall (b := main_v11_0) rfl) (W5 m d))) $$ Hheld
  icases H with ⟨Htab, Hheld⟩
  ihave H := (Entails.of_eq (held_take (Finset.mem_erase.mpr ⟨dne main_v7 main_v11_0, mem_Sall (b := main_v7) rfl⟩) (W5 m d))) $$ Hheld
  icases H with ⟨Hidx, Hheld⟩
  ihave H := (Entails.of_eq (held_take (Finset.mem_erase.mpr ⟨dne main_v12 main_v7, Finset.mem_erase.mpr ⟨dne main_v12 main_v11_0, mem_Sall (b := main_v12) rfl⟩⟩) (W5 m d))) $$ Hheld
  icases H with ⟨Hout, Hheld⟩
  iapply (wp_call1 (TbOf m) (IbOf m) κ (K (F := F)).lev (by sl_refines_lev) d) $$ [Hst Htab Hidx Hout Hbar Hheld Hk]
  isplitr; · iexact Hctx
  isplitl [Hst]; · iexact Hst
  isplitl [Htab]; · iapply (pts_congr (ℓ := tab1 d) (q := fullShare) (W5_v11_0 m d)); iexact Htab
  isplitl [Hidx]; · iapply (pts_congr (ℓ := idxLoc d) (q := fullShare) (W5_v7 m d)); iexact Hidx
  isplitr; · ipureintro; exact hok d
  isplitl [Hout]; · iexists _; iexact Hout
  isplitl [Hbar]; · iexact Hbar
  iintro ⟨Hst, Htab, Hidx, Hout, Hbar⟩
  iapply Hk
  isplitl [Hst]; · iexact Hst
  isplitr [Hbar]
  · -- the three arrays back into the held set, the sums' array at its new contents
    ihave Hout := (pts_congr (ℓ := out1 d) (q := fullShare) (f := (gsumF (TbOf m 1 d) (IbOf m d) : S10240x128.Idx → F .f32)) (g := W6 m d (Proc.devRef .tc main_v12)) (W6_v12 m d).symm) $$ Hout
    ihave Hheld := (Entails.of_eq hS) $$ Hheld
    ihave Hheld := (Entails.of_eq (held_take (Finset.mem_erase.mpr ⟨dne main_v12 main_v7, Finset.mem_erase.mpr ⟨dne main_v12 main_v11_0, mem_Sall (b := main_v12) rfl⟩⟩) (W6 m d)).symm) $$ [Hout Hheld]
    · isplitl [Hout] <;> iassumption
    ihave Hidx := (pts_congr (ℓ := idxLoc d) (q := fullShare) (W6_v7 m d).symm) $$ Hidx
    ihave Hheld := (Entails.of_eq (held_take (Finset.mem_erase.mpr ⟨dne main_v7 main_v11_0, mem_Sall (b := main_v7) rfl⟩) (W6 m d)).symm) $$ [Hidx Hheld]
    · isplitl [Hidx] <;> iassumption
    ihave Htab := (pts_congr (ℓ := tab1 d) (q := fullShare) (f := wrT1 d (TbOf m 1 d)) (g := W6 m d (Proc.devRef .tc main_v11_0)) (W6_v11_0 m d).symm) $$ Htab
    iapply (Entails.of_eq (held_take (mem_Sall (b := main_v11_0) rfl) (W6 m d)).symm)
    isplitl [Htab] <;> iassumption
  · iexact Hbar

set_option maxRecDepth 131072 in
include hok in
/-- The third call: the second layer's result, the index table and the sums' array go to the two SparseCores and come back, the sums written. -/
theorem call_step2 (κ : GSem nD τ sig → ℕ) (d : Dev nD) {Φ : PUnit → sProp 𝕄} :
    iprop((K (F := F)).ctx EH (P (F := F) (TbOf m) (IbOf m)) κ ∗ (K (F := F)).tcSt EH d 2 ∗ held (T d) Sall (W8 m d) ∗ barAll 2 d
        ∗ (iprop((K (F := F)).tcSt EH d 3 ∗ held (T d) Sall (W9 m d) ∗ barAll 3 d) -∗ Φ ⟨⟩))
      ⊢ wp frame (wpE ((K (F := F)).defs (D (F := F))) 𝒱 (SparseCore.T d) none) Set.univ ((K (F := F)).run d 2) Φ := by
  have hW9 : W9 m d = Function.update (W8 m d) (Proc.devRef .tc main_v15) (gsumF (W8 m d (Proc.devRef .tc main_v14_0)) (W8 m d (Proc.devRef .tc main_v7))) := rfl
  have hS : (held (T d) (((Sall.erase (Proc.devRef .tc main_v14_0)).erase (Proc.devRef .tc main_v7)).erase (Proc.devRef .tc main_v15)) (W8 m d) : sProp 𝕄)
      = held (T d) (((Sall.erase (Proc.devRef .tc main_v14_0)).erase (Proc.devRef .tc main_v7)).erase (Proc.devRef .tc main_v15)) (W9 m d) := by
    rw [hW9]; exact held_erase_update _ _
  iintro ⟨#Hctx, Hst, Hheld, Hbar, Hk⟩
  ihave H := (Entails.of_eq (held_take (mem_Sall (b := main_v14_0) rfl) (W8 m d))) $$ Hheld
  icases H with ⟨Htab, Hheld⟩
  ihave H := (Entails.of_eq (held_take (Finset.mem_erase.mpr ⟨dne main_v7 main_v14_0, mem_Sall (b := main_v7) rfl⟩) (W8 m d))) $$ Hheld
  icases H with ⟨Hidx, Hheld⟩
  ihave H := (Entails.of_eq (held_take (Finset.mem_erase.mpr ⟨dne main_v15 main_v7, Finset.mem_erase.mpr ⟨dne main_v15 main_v14_0, mem_Sall (b := main_v15) rfl⟩⟩) (W8 m d))) $$ Hheld
  icases H with ⟨Hout, Hheld⟩
  iapply (wp_call2 (TbOf m) (IbOf m) κ (K (F := F)).lev (by sl_refines_lev) d) $$ [Hst Htab Hidx Hout Hbar Hheld Hk]
  isplitr; · iexact Hctx
  isplitl [Hst]; · iexact Hst
  isplitl [Htab]; · iapply (pts_congr (ℓ := tab2 d) (q := fullShare) (W8_v14_0 m d)); iexact Htab
  isplitl [Hidx]; · iapply (pts_congr (ℓ := idxLoc d) (q := fullShare) (W8_v7 m d)); iexact Hidx
  isplitr; · ipureintro; exact hok d
  isplitl [Hout]; · iexists _; iexact Hout
  isplitl [Hbar]; · iexact Hbar
  iintro ⟨Hst, Htab, Hidx, Hout, Hbar⟩
  iapply Hk
  isplitl [Hst]; · iexact Hst
  isplitr [Hbar]
  · -- the three arrays back into the held set, the sums' array at its new contents
    ihave Hout := (pts_congr (ℓ := out2 d) (q := fullShare) (f := (gsumF (TbOf m 2 d) (IbOf m d) : S10240x128.Idx → F .f32)) (g := W9 m d (Proc.devRef .tc main_v15)) (W9_v15 m d).symm) $$ Hout
    ihave Hheld := (Entails.of_eq hS) $$ Hheld
    ihave Hheld := (Entails.of_eq (held_take (Finset.mem_erase.mpr ⟨dne main_v15 main_v7, Finset.mem_erase.mpr ⟨dne main_v15 main_v14_0, mem_Sall (b := main_v15) rfl⟩⟩) (W9 m d)).symm) $$ [Hout Hheld]
    · isplitl [Hout] <;> iassumption
    ihave Hidx := (pts_congr (ℓ := idxLoc d) (q := fullShare) (W9_v7 m d).symm) $$ Hidx
    ihave Hheld := (Entails.of_eq (held_take (Finset.mem_erase.mpr ⟨dne main_v7 main_v14_0, mem_Sall (b := main_v7) rfl⟩) (W9 m d)).symm) $$ [Hidx Hheld]
    · isplitl [Hidx] <;> iassumption
    ihave Htab := (pts_congr (ℓ := tab2 d) (q := fullShare) (f := wrT2 d (TbOf m 2 d)) (g := W9 m d (Proc.devRef .tc main_v14_0)) (W9_v14_0 m d).symm) $$ Htab
    iapply (Entails.of_eq (held_take (mem_Sall (b := main_v14_0) rfl) (W9 m d)).symm)
    isplitl [Htab] <;> iassumption
  · iexact Hbar

/-! ## The final reading -/

/-- The fourteen argument arrays are among the arrays the TensorCore holds, apart from the result array. -/
theorem argRefs_sub : argRefs.image (Proc.devRef .tc) ⊆ (Sall : Finset (DevRef τ sig)).erase (Proc.devRef .tc main_v17) := by
  intro b hb
  obtain ⟨a, ha, rfl⟩ := Finset.mem_image.mp hb
  simp only [argRefs, Finset.mem_insert, Finset.mem_singleton] at ha
  rcases ha with rfl | rfl | rfl | rfl | rfl | rfl | rfl | rfl | rfl | rfl | rfl | rfl | rfl | rfl <;>
    exact Finset.mem_erase.mpr ⟨dne _ _, mem_Sall rfl⟩

/-- THE FINAL READING: what the TensorCore holds after the last region gives every argument array whole at its launch
    contents and the result array whole at the program's value; the other arrays are let go. -/
theorem fin_of_held (d : Dev nD) : (held (T d : Thread nD τ) Sall (W11 m d) : sProp 𝕄) ⊢ FIN m (ResOf m) d := by
  unfold FIN
  have hargs : (held (T d : Thread nD τ) (argRefs.image (Proc.devRef .tc)) (W11 m d) : sProp 𝕄)
      ⊢ bigSep argRefs fun b => ((SparseCore.T d).loc b ↦{fullShare} m ((SparseCore.T d).loc b) : sProp 𝕄) := by
    unfold held
    rw [SparseCore.bigSep_image_of_injOn (fun a _ b _ h => Proc.devRef_injective _ h)]
    refine bigSep_mono fun b hb => ?_
    simp only [argRefs, Finset.mem_insert, Finset.mem_singleton] at hb
    rcases hb with rfl | rfl | rfl | rfl | rfl | rfl | rfl | rfl | rfl | rfl | rfl | rfl | rfl | rfl
    · exact pts_congr (ℓ := (SparseCore.T d).loc main_arg0) (q := fullShare) (W11_arg0 m d)
    · exact pts_congr (ℓ := (SparseCore.T d).loc main_arg1) (q := fullShare) (W11_arg1 m d)
    · exact pts_congr (ℓ := (SparseCore.T d).loc main_arg2) (q := fullShare) (W11_arg2 m d)
    · exact pts_congr (ℓ := (SparseCore.T d).loc main_arg3) (q := fullShare) (W11_arg3 m d)
    · exact pts_congr (ℓ := (SparseCore.T d).loc main_arg4) (q := fullShare) (W11_arg4 m d)
    · exact pts_congr (ℓ := (SparseCore.T d).loc main_arg5) (q := fullShare) (W11_arg5 m d)
    · exact pts_congr (ℓ := (SparseCore.T d).loc main_arg6) (q := fullShare) (W11_arg6 m d)
    · exact pts_congr (ℓ := (SparseCore.T d).loc main_arg7) (q := fullShare) (W11_arg7 m d)
    · exact pts_congr (ℓ := (SparseCore.T d).loc main_arg8) (q := fullShare) (W11_arg8 m d)
    · exact pts_congr (ℓ := (SparseCore.T d).loc main_arg9) (q := fullShare) (W11_arg9 m d)
    · exact pts_congr (ℓ := (SparseCore.T d).loc main_arg10) (q := fullShare) (W11_arg10 m d)
    · exact pts_congr (ℓ := (SparseCore.T d).loc main_arg11) (q := fullShare) (W11_arg11 m d)
    · exact pts_congr (ℓ := (SparseCore.T d).loc main_arg12) (q := fullShare) (W11_arg12 m d)
    · exact pts_congr (ℓ := (SparseCore.T d).loc main_arg13) (q := fullShare) (W11_arg13 m d)
  rw [held_take (mem_Sall (b := main_v17) rfl) (W11 m d), StableHlo.held_sub_split (T d) argRefs_sub (W11 m d)]
  iintro ⟨Hv, Hargs, -⟩
  isplitl [Hargs]
  · iapply hargs; iexact Hargs
  · iapply (pts_congr (ℓ := resLoc d) (q := fullShare) (W11_v17 m d)); iexact Hv

end Cert.Proof.KB

end
-- ==== Proof.ScRegStepsK.lean ====
import proofs.«205366_g3083786518796_cont_9to1_852_38_alg».proof.Proof.ScStepsK

noncomputable section

/-!
# The TensorCore's steps between SparseCore calls

A TensorCore region run while the TensorCore is in the handshake state before call `n`: what it owes the SparseCores
rides through the region, whose own waits are recorded at no call's index; the arrays go from one valuation to the
region's update of it.  And the three reshapes of a bias vector [128] into a row [1,128], as steps over all the
TensorCore's arrays held at a valuation.
-/

namespace Cert.Proof.KB

open Cert.Kernel Cert.Kernel.Gen Cert.Kernel.Regions

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq)

variable {F : FTy → Type} [FloatOps F]

local notation "𝕄" => MT nD τ sig (HIx 3) (Elt F) ℕ UU ℕ

/-! ## The regions after the first -/

/-- Region 1 while the TensorCore is in the handshake state before call `n`. -/
theorem region_step1 (κ : GSem nD τ sig → ℕ) (d : Dev nD) (n : ℕ) (Wk : Valuation τ sig (Elt F)) {α : Type}
    (k : PUnit → Prog (TpuEff nD τ sig (Elt F) (SparseCore.Sig (ΛP (F := F)) 3) .tc) α) (Φ : α → sProp 𝕄) (Tb Ib) :
    iprop((K (F := F)).ctx EH (P (F := F) Tb Ib) κ ∗ (K (F := F)).tcSt EH d n ∗ boundary (T d : Thread nD τ) ∗ held (T d : Thread nD τ) Sall Wk
        ∗ Pipeline.cellsGhost (Pipeline.pin (pcfgs (F := F)) adm) ER 1 d ∗ Pipeline.toksInit (Pipeline.pin (pcfgs (F := F)) adm) ER 1 d
        ∗ (iprop((K (F := F)).tcSt EH d n ∗ boundary (T d : Thread nD τ) ∗ held (T d : Thread nD τ) Sall (V1' Wk))
            -∗ wp frame (wpE ((K (F := F)).defs D) 𝒱 (T d) none) Set.univ (k ⟨⟩) Φ))
      ⊢ wp frame (wpE ((K (F := F)).defs D) 𝒱 (T d) none) Set.univ (Prog.lift (.customCall (SparseCore.inner (Pipeline.entry 1)) ()) >>= k) Φ := by
  unfold SparseCore.Cfg.tcSt
  iintro ⟨#Hctx, ⟨⟨%W, %hW, HO⟩, Hrest⟩, Hb, Hheld, Hcg, Htk, Hk⟩
  ihave #Hlev := (SparseCore.Cfg.ctx_levAts κ) $$ Hctx
  iapply (wp_region_held1 Wk ((K (F := F)).Otc d n) (Otc_none d n) (K (F := F)).lev (by sl_refines_lev) d W k Φ) $$ [HO Hrest Hb Hheld Hcg Htk Hk]
  isplitl [Hb]; · iexact Hb
  isplitl [Hheld]; · iexact Hheld
  isplitl [HO]; · iexact HO
  isplitr; · iexact Hlev
  isplitl [Hcg]; · iexact Hcg
  isplitl [Htk]; · iexact Htk
  iintro ⟨Hb, Hheld, %W', %hW', HO⟩
  iapply Hk
  isplitl [HO Hrest]
  · isplitl [HO]
    · iexists W'
      isplitr
      · ipureintro; exact wbelow_of_none hW hW'
      · iexact HO
    · iexact Hrest
  isplitl [Hb]; · iexact Hb
  iexact Hheld

/-- Region 2 while the TensorCore is in the handshake state before call `n`. -/
theorem region_step2 (κ : GSem nD τ sig → ℕ) (d : Dev nD) (n : ℕ) (Wk : Valuation τ sig (Elt F)) {α : Type}
    (k : PUnit → Prog (TpuEff nD τ sig (Elt F) (SparseCore.Sig (ΛP (F := F)) 3) .tc) α) (Φ : α → sProp 𝕄) (Tb Ib) :
    iprop((K (F := F)).ctx EH (P (F := F) Tb Ib) κ ∗ (K (F := F)).tcSt EH d n ∗ boundary (T d : Thread nD τ) ∗ held (T d : Thread nD τ) Sall Wk
        ∗ Pipeline.cellsGhost (Pipeline.pin (pcfgs (F := F)) adm) ER 2 d ∗ Pipeline.toksInit (Pipeline.pin (pcfgs (F := F)) adm) ER 2 d
        ∗ (iprop((K (F := F)).tcSt EH d n ∗ boundary (T d : Thread nD τ) ∗ held (T d : Thread nD τ) Sall (V2' Wk))
            -∗ wp frame (wpE ((K (F := F)).defs D) 𝒱 (T d) none) Set.univ (k ⟨⟩) Φ))
      ⊢ wp frame (wpE ((K (F := F)).defs D) 𝒱 (T d) none) Set.univ (Prog.lift (.customCall (SparseCore.inner (Pipeline.entry 2)) ()) >>= k) Φ := by
  unfold SparseCore.Cfg.tcSt
  iintro ⟨#Hctx, ⟨⟨%W, %hW, HO⟩, Hrest⟩, Hb, Hheld, Hcg, Htk, Hk⟩
  ihave #Hlev := (SparseCore.Cfg.ctx_levAts κ) $$ Hctx
  iapply (wp_region_held2 Wk ((K (F := F)).Otc d n) (Otc_none d n) (K (F := F)).lev (by sl_refines_lev) d W k Φ) $$ [HO Hrest Hb Hheld Hcg Htk Hk]
  isplitl [Hb]; · iexact Hb
  isplitl [Hheld]; · iexact Hheld
  isplitl [HO]; · iexact HO
  isplitr; · iexact Hlev
  isplitl [Hcg]; · iexact Hcg
  isplitl [Htk]; · iexact Htk
  iintro ⟨Hb, Hheld, %W', %hW', HO⟩
  iapply Hk
  isplitl [HO Hrest]
  · isplitl [HO]
    · iexists W'
      isplitr
      · ipureintro; exact wbelow_of_none hW hW'
      · iexact HO
    · iexact Hrest
  isplitl [Hb]; · iexact Hb
  iexact Hheld

/-- Region 3 while the TensorCore is in the handshake state before call `n`. -/
theorem region_step3 (κ : GSem nD τ sig → ℕ) (d : Dev nD) (n : ℕ) (Wk : Valuation τ sig (Elt F)) {α : Type}
    (k : PUnit → Prog (TpuEff nD τ sig (Elt F) (SparseCore.Sig (ΛP (F := F)) 3) .tc) α) (Φ : α → sProp 𝕄) (Tb Ib) :
    iprop((K (F := F)).ctx EH (P (F := F) Tb Ib) κ ∗ (K (F := F)).tcSt EH d n ∗ boundary (T d : Thread nD τ) ∗ held (T d : Thread nD τ) Sall Wk
        ∗ Pipeline.cellsGhost (Pipeline.pin (pcfgs (F := F)) adm) ER 3 d ∗ Pipeline.toksInit (Pipeline.pin (pcfgs (F := F)) adm) ER 3 d
        ∗ (iprop((K (F := F)).tcSt EH d n ∗ boundary (T d : Thread nD τ) ∗ held (T d : Thread nD τ) Sall (V3' Wk))
            -∗ wp frame (wpE ((K (F := F)).defs D) 𝒱 (T d) none) Set.univ (k ⟨⟩) Φ))
      ⊢ wp frame (wpE ((K (F := F)).defs D) 𝒱 (T d) none) Set.univ (Prog.lift (.customCall (SparseCore.inner (Pipeline.entry 3)) ()) >>= k) Φ := by
  unfold SparseCore.Cfg.tcSt
  iintro ⟨#Hctx, ⟨⟨%W, %hW, HO⟩, Hrest⟩, Hb, Hheld, Hcg, Htk, Hk⟩
  ihave #Hlev := (SparseCore.Cfg.ctx_levAts κ) $$ Hctx
  iapply (wp_region_held3 Wk ((K (F := F)).Otc d n) (Otc_none d n) (K (F := F)).lev (by sl_refines_lev) d W k Φ) $$ [HO Hrest Hb Hheld Hcg Htk Hk]
  isplitl [Hb]; · iexact Hb
  isplitl [Hheld]; · iexact Hheld
  isplitl [HO]; · iexact HO
  isplitr; · iexact Hlev
  isplitl [Hcg]; · iexact Hcg
  isplitl [Htk]; · iexact Htk
  iintro ⟨Hb, Hheld, %W', %hW', HO⟩
  iapply Hk
  isplitl [HO Hrest]
  · isplitl [HO]
    · iexists W'
      isplitr
      · ipureintro; exact wbelow_of_none hW hW'
      · iexact HO
    · iexact Hrest
  isplitl [Hb]; · iexact Hb
  iexact Hheld

/-! ## The reshapes of the bias vectors -/

/-- The reshape touches two of the TensorCore's arrays. -/
theorem rs10_sub : (Cert.Kernel.HostPre.rsOp10 (F := F)).bufs ⊆ (Sall : Finset (DevRef τ sig)) := by
  rw [Cert.Kernel.HostPre.rsOp10_bufs]
  intro b hb
  rw [Finset.mem_insert, Finset.mem_singleton] at hb
  rcases hb with rfl | rfl <;> exact mem_Sall rfl

/-- The reshape of `main_arg5` into `main_v10` as a step over the held arrays: the valuation moves to the operation's result. -/
theorem rs_step10 (d : Dev nD) (W : Valuation τ sig (Elt F)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall W
        ∗ (iprop(boundary (T d : Thread nD τ) ∗ held (T d : Thread nD τ) Sall ((Cert.Kernel.HostPre.rsOp10 (F := F)).result W))
            -∗ wp frame (wpE ((K (F := F)).defs D) 𝒱 (T d) none) Set.univ (k ⟨⟩) Φ))
      ⊢ wp frame (wpE ((K (F := F)).defs D) 𝒱 (T d) none) Set.univ
          (hlo rfl (StableHlo.reshape main_arg5 main_v10 rfl shapeCasts_S128_S1x128) (fun _ => .ret ⟨⟩) >>= k) Φ := by
  rw [wp_bind]
  iintro ⟨Hb, Hheld, Hk⟩
  iapply (wp_hlo_within 𝒱 (SparseCore.T d) none Set.univ (op := Cert.Kernel.HostPre.rsOp10 (F := F)) (S := Sall) rs10_sub (V := W)) $$ [Hb Hheld]
  · isplitl [Hb] <;> iassumption
  iintro ⟨Hb, Hheld⟩
  rw [wp_ret]; imodintro
  iapply Hk
  isplitl [Hb]; · iexact Hb
  iexact Hheld

/-- The reshape touches two of the TensorCore's arrays. -/
theorem rs13_sub : (Cert.Kernel.HostPre.rsOp13 (F := F)).bufs ⊆ (Sall : Finset (DevRef τ sig)) := by
  rw [Cert.Kernel.HostPre.rsOp13_bufs]
  intro b hb
  rw [Finset.mem_insert, Finset.mem_singleton] at hb
  rcases hb with rfl | rfl <;> exact mem_Sall rfl

/-- The reshape of `main_arg9` into `main_v13` as a step over the held arrays: the valuation moves to the operation's result. -/
theorem rs_step13 (d : Dev nD) (W : Valuation τ sig (Elt F)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall W
        ∗ (iprop(boundary (T d : Thread nD τ) ∗ held (T d : Thread nD τ) Sall ((Cert.Kernel.HostPre.rsOp13 (F := F)).result W))
            -∗ wp frame (wpE ((K (F := F)).defs D) 𝒱 (T d) none) Set.univ (k ⟨⟩) Φ))
      ⊢ wp frame (wpE ((K (F := F)).defs D) 𝒱 (T d) none) Set.univ
          (hlo rfl (StableHlo.reshape main_arg9 main_v13 rfl shapeCasts_S128_S1x128) (fun _ => .ret ⟨⟩) >>= k) Φ := by
  rw [wp_bind]
  iintro ⟨Hb, Hheld, Hk⟩
  iapply (wp_hlo_within 𝒱 (SparseCore.T d) none Set.univ (op := Cert.Kernel.HostPre.rsOp13 (F := F)) (S := Sall) rs13_sub (V := W)) $$ [Hb Hheld]
  · isplitl [Hb] <;> iassumption
  iintro ⟨Hb, Hheld⟩
  rw [wp_ret]; imodintro
  iapply Hk
  isplitl [Hb]; · iexact Hb
  iexact Hheld

/-- The reshape touches two of the TensorCore's arrays. -/
theorem rs16_sub : (Cert.Kernel.HostPre.rsOp16 (F := F)).bufs ⊆ (Sall : Finset (DevRef τ sig)) := by
  rw [Cert.Kernel.HostPre.rsOp16_bufs]
  intro b hb
  rw [Finset.mem_insert, Finset.mem_singleton] at hb
  rcases hb with rfl | rfl <;> exact mem_Sall rfl

/-- The reshape of `main_arg13` into `main_v16` as a step over the held arrays: the valuation moves to the operation's result. -/
theorem rs_step16 (d : Dev nD) (W : Valuation τ sig (Elt F)) {α : Type}
    (k : PUnit → Prog (TpuEff nD τ sig (Elt F) (SparseCore.Sig (ΛP (F := F)) 3) .tc) α) (Φ : α → sProp 𝕄) :
    iprop(boundary (T d : Thread nD τ) ∗ held (T d : Thread nD τ) Sall W
        ∗ (iprop(boundary (T d : Thread nD τ) ∗ held (T d : Thread nD τ) Sall ((Cert.Kernel.HostPre.rsOp16 (F := F)).result W))
            -∗ wp frame (wpE ((K (F := F)).defs D) 𝒱 (T d) none) Set.univ (k ⟨⟩) Φ))
      ⊢ wp frame (wpE ((K (F := F)).defs D) 𝒱 (T d) none) Set.univ
          (hlo rfl (StableHlo.reshape main_arg13 main_v16 rfl shapeCasts_S128_S1x128) (fun _ => .ret ⟨⟩) >>= k) Φ := by
  rw [wp_bind]
  iintro ⟨Hb, Hheld, Hk⟩
  iapply (wp_hlo_within 𝒱 (SparseCore.T d) none Set.univ (op := Cert.Kernel.HostPre.rsOp16 (F := F)) (S := Sall) rs16_sub (V := W)) $$ [Hb Hheld]
  · isplitl [Hb] <;> iassumption
  iintro ⟨Hb, Hheld⟩
  rw [wp_ret]; imodintro
  iapply Hk
  isplitl [Hb]; · iexact Hb
  iexact Hheld

end Cert.Proof.KB

end
-- ==== Proof.ScMainK.lean ====
/-
  @main on the TensorCore: the host operations that lay out the index table, then three times a SparseCore call
  (its operands handed to the two SparseCores as read tokens and output rows, its results taken back) and the
  TensorCore regions that follow it, to the result array at the network's value and the arguments untouched.
-/

import proofs.«205366_g3083786518796_cont_9to1_852_38_alg».proof.Proof.ScStepsK
import proofs.«205366_g3083786518796_cont_9to1_852_38_alg».proof.Proof.ScSteps12K
import proofs.«205366_g3083786518796_cont_9to1_852_38_alg».proof.Proof.ScRegStepsK

noncomputable section

namespace Cert.Proof.KB

open Cert.Kernel Cert.Kernel.Gen Cert.Kernel.Regions

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within wp_seq)

variable {F : FTy → Type} [FloatOps F]

local notation "𝕄" => MT nD τ sig (HIx 3) (Elt F) ℕ UU ℕ

variable (m : (ℓ : Loc nD τ sig) → Buf (Elt F) ℓ) (ρ : Dev nD → PrngReg)
variable (hok : ∀ d w, IdxOk w (IbOf m d))

/-! ## A TensorCore region, between calls -/

/-- Region 0 while the TensorCore is in the handshake state before call `n`: what it owes rides through the region (the
    region's own waits are recorded at no call's index), the arrays go from `Wk` to the region's update of it. -/
theorem region_step0 (κ : GSem nD τ sig → ℕ) (d : Dev nD) (n : ℕ) (Wk : Valuation τ sig (Elt F)) {α : Type}
    (k : PUnit → Prog (TpuEff nD τ sig (Elt F) (SparseCore.Sig (ΛP (F := F)) 3) .tc) α) (Φ : α → sProp 𝕄) (Tb Ib) :
    iprop((K (F := F)).ctx EH (P (F := F) Tb Ib) κ ∗ (K (F := F)).tcSt EH d n ∗ boundary (T d : Thread nD τ) ∗ held (T d : Thread nD τ) Sall Wk
        ∗ Pipeline.cellsGhost (Pipeline.pin (pcfgs (F := F)) adm) ER 0 d ∗ Pipeline.toksInit (Pipeline.pin (pcfgs (F := F)) adm) ER 0 d
        ∗ (iprop((K (F := F)).tcSt EH d n ∗ boundary (T d : Thread nD τ) ∗ held (T d : Thread nD τ) Sall (V0' Wk))
            -∗ wp frame (wpE ((K (F := F)).defs D) 𝒱 (T d) none) Set.univ (k ⟨⟩) Φ))
      ⊢ wp frame (wpE ((K (F := F)).defs D) 𝒱 (T d) none) Set.univ (Prog.lift (.customCall (SparseCore.inner (Pipeline.entry 0)) ()) >>= k) Φ := by
  unfold SparseCore.Cfg.tcSt
  iintro ⟨#Hctx, ⟨⟨%W, %hW, HO⟩, Hrest⟩, Hb, Hheld, Hcg, Htk, Hk⟩
  ihave #Hlev := (SparseCore.Cfg.ctx_levAts κ) $$ Hctx
  iapply (wp_region_held0 Wk ((K (F := F)).Otc d n) (Otc_none d n) (K (F := F)).lev (by sl_refines_lev) d W k Φ) $$ [HO Hrest Hb Hheld Hcg Htk Hk]
  isplitl [Hb]; · iexact Hb
  isplitl [Hheld]; · iexact Hheld
  isplitl [HO]; · iexact HO
  isplitr; · iexact Hlev
  isplitl [Hcg]; · iexact Hcg
  isplitl [Htk]; · iexact Htk
  iintro ⟨Hb, Hheld, %W', %hW', HO⟩
  iapply Hk
  isplitl [HO Hrest]
  · isplitl [HO]
    · iexists W'
      isplitr
      · ipureintro; exact wbelow_of_none hW hW'
      · iexact HO
    · iexact Hrest
  isplitl [Hb]; · iexact Hb
  iexact Hheld

/-! ## @main -/

include hok in
theorem hmain (κ : GSem nD τ sig → ℕ) (d : Dev nD) :
    iprop((K (F := F)).ctx EH (P (F := F) (TbOf m) (IbOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 3 ∗ FIN m (ResOf m) d) := by
  unfold SparseCore.Cfg.tcRes
  rw [unscoped_held, Cert.Kernel.HostPre.main_eq]
  iintro ⟨#Hctx, Hst, ⟨Hb, Hheld, -, -⟩, HG⟩
  -- the eleven host operations that lay the index table out
  iapply (wp_seq (defs := (K (F := F)).defs (D (F := F))) (𝒱 := 𝒱) (bd := none) (E := Set.univ) d Sall (fun _ => Cert.Kernel.HostPre.rest0 d)
      Cert.Kernel.HostPre.preOps (fun op hop => (Cert.Kernel.HostPre.pre_bufs op hop).trans Spre_sub)
      Cert.Kernel.HostPre.pre_fresh (V0 m d)) $$ [Hb Hheld]
  · isplitl [Hb] <;> iassumption
  iintro ⟨Hb, Hheld⟩
  unfold Cert.Kernel.HostPre.rest0
  -- what the launch element dealt @main: the tiles' barrier cells at round 0, the four pipelines' staging cells
  unfold G
  icases HG with ⟨Hbar, Hcg, Htk⟩
  ihave Hcg := (Entails.of_eq (bigSep_W1 (fun p => Pipeline.cellsGhost (nD := nD) (τ := τ) cfgs (ER (F := F)) p d))) $$ Hcg
  icases Hcg with ⟨Hcg0, Hcg1, Hcg2, Hcg3⟩
  ihave Htk := (Entails.of_eq (bigSep_W1 (fun p => (Pipeline.toksInit (nD := nD) (τ := τ) cfgs (ER (F := F)) p d : sProp 𝕄)))) $$ Htk
  icases Htk with ⟨Htk0, Htk1, Htk2, Htk3⟩
  -- layer 0: the neighbour sums of x, the first product, the activation and the next first product
  rw [wp_bind]
  iapply (call_step0 m hok κ d) $$ [Hst Hheld Hbar Hb Hcg0 Hcg1 Hcg2 Hcg3 Htk0 Htk1 Htk2 Htk3]
  isplitr; · iexact Hctx
  isplitl [Hst]; · iexact Hst
  isplitl [Hheld]; · iexact Hheld
  isplitl [Hbar]; · iexact Hbar
  iintro ⟨Hst, Hheld, Hbar⟩
  iapply (region_step0 κ d 1 (W2 m d) _ _ (TbOf m) (IbOf m)) $$ [Hst Hheld Hbar Hb Hcg0 Hcg1 Hcg2 Hcg3 Htk0 Htk1 Htk2 Htk3]
  isplitr; · iexact Hctx
  isplitl [Hst]; · iexact Hst
  isplitl [Hb]; · iexact Hb
  isplitl [Hheld]; · iexact Hheld
  isplitl [Hcg0]; · iexact Hcg0
  isplitl [Htk0]; · iexact Htk0
  iintro ⟨Hst, Hb, Hheld⟩
  iapply (rs_step10 d (W3 m d) _ _) $$ [Hst Hheld Hbar Hb Hcg1 Hcg2 Hcg3 Htk1 Htk2 Htk3]
  isplitl [Hb]; · iexact Hb
  isplitl [Hheld]; · iexact Hheld
  iintro ⟨Hb, Hheld⟩
  iapply (region_step1 κ d 1 (W4 m d) _ _ (TbOf m) (IbOf m)) $$ [Hst Hheld Hbar Hb Hcg1 Hcg2 Hcg3 Htk1 Htk2 Htk3]
  isplitr; · iexact Hctx
  isplitl [Hst]; · iexact Hst
  isplitl [Hb]; · iexact Hb
  isplitl [Hheld]; · iexact Hheld
  isplitl [Hcg1]; · iexact Hcg1
  isplitl [Htk1]; · iexact Htk1
  iintro ⟨Hst, Hb, Hheld⟩
  -- layer 1
  rw [wp_bind]
  iapply (call_step1 m hok κ d) $$ [Hst Hheld Hbar Hb Hcg2 Hcg3 Htk2 Htk3]
  isplitr; · iexact Hctx
  isplitl [Hst]; · iexact Hst
  isplitl [Hheld]; · iexact Hheld
  isplitl [Hbar]; · iexact Hbar
  iintro ⟨Hst, Hheld, Hbar⟩
  iapply (rs_step13 d (W6 m d) _ _) $$ [Hst Hheld Hbar Hb Hcg2 Hcg3 Htk2 Htk3]
  isplitl [Hb]; · iexact Hb
  isplitl [Hheld]; · iexact Hheld
  iintro ⟨Hb, Hheld⟩
  iapply (region_step2 κ d 2 (W7 m d) _ _ (TbOf m) (IbOf m)) $$ [Hst Hheld Hbar Hb Hcg2 Hcg3 Htk2 Htk3]
  isplitr; · iexact Hctx
  isplitl [Hst]; · iexact Hst
  isplitl [Hb]; · iexact Hb
  isplitl [Hheld]; · iexact Hheld
  isplitl [Hcg2]; · iexact Hcg2
  isplitl [Htk2]; · iexact Htk2
  iintro ⟨Hst, Hb, Hheld⟩
  -- layer 2
  rw [wp_bind]
  iapply (call_step2 m hok κ d) $$ [Hst Hheld Hbar Hb Hcg3 Htk3]
  isplitr; · iexact Hctx
  isplitl [Hst]; · iexact Hst
  isplitl [Hheld]; · iexact Hheld
  isplitl [Hbar]; · iexact Hbar
  iintro ⟨Hst, Hheld, Hbar⟩
  iapply (rs_step16 d (W9 m d) _ _) $$ [Hst Hheld Hb Hcg3 Htk3]
  isplitl [Hb]; · iexact Hb
  isplitl [Hheld]; · iexact Hheld
  iintro ⟨Hb, Hheld⟩
  iapply (region_step3 κ d 3 (W10 m d) _ _ (TbOf m) (IbOf m)) $$ [Hst Hheld Hb Hcg3 Htk3]
  isplitr; · iexact Hctx
  isplitl [Hst]; · iexact Hst
  isplitl [Hb]; · iexact Hb
  isplitl [Hheld]; · iexact Hheld
  isplitl [Hcg3]; · iexact Hcg3
  isplitl [Htk3]; · iexact Htk3
  iintro ⟨Hst, Hb, Hheld⟩
  -- the return: the result array at the program's value, the arguments at their launch contents
  rw [wp_pure]; imodintro
  isplitl [Hst]; · iexact Hst
  iapply (fin_of_held m d); iexact Hheld

end Cert.Proof.KB

end
-- ==== Proof.ScElemK.lean ====
/-
  The launch element of the ghost state, and what the launch hands over.

  The element is a triple: the launch handshakes' cells, the subcore-barrier cells (one per tile, three rounds each,
  a unit duty per tile of the SparseCore in every round), and the TensorCore pipelines' staging cells.  It splits
  into the three; the barrier part funds every cell's round state, "round 0 reached", the owner's position at the
  origin, and every duty token; the semaphores at zero with the round states allocate the cells' invariants; the
  credit regroups so that each tile holds, for each call, the sixteen units of its own cell; the tokens regroup so
  that each tile holds, for each call, its token in every sibling's cell.  Each tile's three kits come out of
  those, the positions and "reached" go to the device's share, and the pipelines' part is the library's funding.
-/
import proofs.«205366_g3083786518796_cont_9to1_852_38_alg».proof.Proof.ScGhostK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-! ## Its pieces -/

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element splits into its three parts. -/
theorem ownU_split (a : UH) (b : UB) (r : UR) :
    (ownU ((a, (b, (r, 1))) : UU) : sProp 𝕄) ⊢ iprop(BI.own (EH a) ∗ BI.own (EB b) ∗ BI.own (ER (F := F) r)) := by
  have h1 : (ownU ((a, (b, (r, 1))) : UU) : sProp 𝕄)
      ⊢ iprop(BI.own (EH a) ∗ BI.own ((uEmb (nD := nD) (sig := sig) (Ix := HIx 3) (Val := Elt F) (Name := ℕ) (U := UU) (Lvl := ℕ)).toEmb ((1, (b, (r, 1))) : UU))) :=
    BI.own_op_elim ((uEmb (nD := nD) (sig := sig) (Ix := HIx 3) (Val := Elt F) (Name := ℕ) (U := UU) (Lvl := ℕ)).toEmb.op_of_mem
      (Prod.mk_mem_op (URA.mem_op_one a) (URA.mem_one_op (b, ((r, 1) : UR × Counters)))))
  have h2 : (BI.own ((uEmb (nD := nD) (sig := sig) (Ix := HIx 3) (Val := Elt F) (Name := ℕ) (U := UU) (Lvl := ℕ)).toEmb ((1, (b, (r, 1))) : UU)) : sProp 𝕄)
      ⊢ iprop(BI.own (EB b) ∗ BI.own (ER (F := F) r)) :=
    BI.own_op_elim (((Emb.inr : Emb (UB × (UR × Counters)) UU).trans
        (uEmb (nD := nD) (sig := sig) (Ix := HIx 3) (Val := Elt F) (Name := ℕ) (U := UU) (Lvl := ℕ)).toEmb).op_of_mem
      (Prod.mk_mem_op (URA.mem_op_one b) (URA.mem_one_op ((r, 1) : UR × Counters))))
  exact h1.trans (sep_mono_r h2)

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) Tb) g 0)
    ⊢ |={Set.univ}=> iprop(∃ κ : GSem nD τ sig → ℕ, bigSep bCells fun g => cellInv EB (bRd (F := F) Tb) (κ g) g) := by
  refine (Rounds.bodies_intro EB (bRd (F := F) Tb) bCells).trans ((inv_alloc_family bCells (Rounds.body EB (bRd (F := F) Tb)) ∅ (E := Set.univ)).trans ?_)
  iintro H
  imod H with ⟨%κ, -, Hinv⟩
  imodintro; iexists κ; iexact Hinv

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

omit [FloatOps F] in
theorem sum_tallyAt_one (g : GSem nD τ sig) (ι : HIx 3) : ∀ n : ℕ, ∑ _ : Fin n, tallyAt g ι 1 = (tallyAt g ι n : CellTallies nD τ sig (HIx 3))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem bigSep_emp' {I : Type} (s : Finset I) : (bigSep s fun _ => iprop(emp)) = (iprop(emp) : sProp 𝕄) := bigSep_emp_const s

/-- What a tile owes over the three calls: for each call a unit on every tile's cell of its SparseCore. -/
theorem oxFrom_V (d : Dev nD) (c : Fin τ.nSC) (i : Fin τ.nSub) :
    (P (F := F) Tb Ib).oxFrom 0 (V d c i) = ∑ q : Fin 3, ∑ j : Fin τ.nSub, tallyAt (bcell d c j) (some q) 1 := by
  unfold SparseCore.Cfg.Pay.oxFrom
  simp only [Nat.zero_le, if_true]
  rfl

/-- The credit for the kernels' own debts, regrouped: each tile, for each call, the sixteen units of its own cell. -/
theorem creds_b : ((P (F := F) Tb Ib).oxCred : sProp 𝕄)
    ⊢ bigSep Finset.univ fun dci : DCI => bigSep Finset.univ fun q : Fin 3 => cred (tallyAt (bcell₃ dci) (some q) 16) := by
  unfold SparseCore.Cfg.Pay.oxCred
  rw [SparseCore.Cfg.bigSep_threads (fun thr : Thread nD τ => (cred ((P (F := F) Tb Ib).oxFrom 0 thr) : sProp 𝕄))]
  refine sep_elim_right.trans (sep_elim_right.trans ?_)
  rw [bigSep_univ_prod, bigSep_univ_prod (fun dci : DCI => bigSep Finset.univ fun q : Fin 3 => (cred (tallyAt (bcell₃ dci) (some q) 16) : sProp 𝕄))]
  refine bigSep_mono fun d _ => ?_
  rw [bigSep_univ_prod, bigSep_univ_prod (fun ci : Fin τ.nSC × Fin τ.nSub => bigSep Finset.univ fun q : Fin 3 => (cred (tallyAt (bcell₃ (d, ci)) (some q) 16) : sProp 𝕄))]
  refine bigSep_mono fun c _ => ?_
  dsimp only
  simp only [oxFrom_V, SparseCore.Cfg.cred_finsum]
  -- ⊛_i ⊛_q ⊛_j cred (unit on cell j, call q)  ⊢  ⊛_i ⊛_q cred (sixteen units on cell i, call q)
  rw [bigSep_univ_comm (fun (i : Fin τ.nSub) (q : Fin 3) => bigSep Finset.univ fun j : Fin τ.nSub => (cred (tallyAt (bcell d c j) (some q) 1) : sProp 𝕄)),
    bigSep_univ_comm (fun (i : Fin τ.nSub) (q : Fin 3) => (cred (tallyAt (bcell d c i) (some q) 16) : sProp 𝕄))]
  refine bigSep_mono fun q _ => ?_
  rw [bigSep_univ_comm (fun (i : Fin τ.nSub) (j : Fin τ.nSub) => (cred (tallyAt (bcell d c j) (some q) 1) : sProp 𝕄))]
  refine bigSep_mono fun j _ => ?_
  rw [← SparseCore.Cfg.cred_finsum, sum_tallyAt_one]; rfl

omit [FloatOps F] in
/-- The duty tokens, per cell, round and duty. -/
theorem toks_eq : (bigSep bToks fun x => (dutyTok EB x.1 x.2.1 x.2.2 : sProp 𝕄))
    = bigSep Finset.univ fun dci : DCI => bigSep Finset.univ fun q : Fin 3 => bigSep Finset.univ fun i : Fin τ.nSub =>
        dutyTok EB (bcell₃ dci) q.val i.val := by
  unfold bToks
  rw [SparseCore.bigSep_image_of_injOn, bigSep_univ_prod]
  · refine bigSep_congr fun dci _ => ?_
    rw [bigSep_univ_prod]
  · rintro ⟨a, q, i⟩ - ⟨a', q', i'⟩ - e
    have e1 : bcell₃ a = bcell₃ a' := (Prod.mk.inj e).1
    have e2 : q.val = q'.val := (Prod.mk.inj (Prod.mk.inj e).2).1
    have e3 : i.val = i'.val := (Prod.mk.inj (Prod.mk.inj e).2).2
    rw [bcell₃_injective e1, Fin.ext e2, Fin.ext e3]

omit [FloatOps F] in
/-- The tokens regrouped: each tile, for each call, its token in every sibling's cell. -/
theorem toks_regroup (d : Dev nD) (c : Fin τ.nSC) :
    (bigSep Finset.univ fun j : Fin τ.nSub => bigSep Finset.univ fun q : Fin 3 => bigSep Finset.univ fun i : Fin τ.nSub =>
        (dutyTok EB (bcell d c j) q.val i.val : sProp 𝕄))
      = bigSep Finset.univ fun i : Fin τ.nSub => bigSep Finset.univ fun q : Fin 3 => bigSep Finset.univ fun j : Fin τ.nSub =>
        dutyTok EB (bcell d c j) q.val i.val := by
  rw [bigSep_univ_comm (fun (j : Fin τ.nSub) (q : Fin 3) => bigSep Finset.univ fun i : Fin τ.nSub => (dutyTok EB (bcell d c j) q.val i.val : sProp 𝕄)),
    bigSep_univ_comm (fun (i : Fin τ.nSub) (q : Fin 3) => bigSep Finset.univ fun j : Fin τ.nSub => (dutyTok EB (bcell d c j) q.val i.val : sProp 𝕄))]
  refine bigSep_congr fun q _ => ?_
  rw [bigSep_univ_comm]

theorem Px_T (d : Dev nD) : (bigSep Finset.univ fun q : Fin 3 => (P (F := F) Tb Ib).x q (SparseCore.T d)) = iprop(emp) :=
  bigSep_emp' _
theorem Px_S (d : Dev nD) (c : Fin τ.nSC) : (bigSep Finset.univ fun q : Fin 3 => (P (F := F) Tb Ib).x q (S d c)) = iprop(emp) :=
  bigSep_emp' _
theorem Px_V (d : Dev nD) (c : Fin τ.nSC) (i : Fin τ.nSub) :
    (bigSep Finset.univ fun q : Fin 3 => (P (F := F) Tb Ib).x q (V d c i)) = bigSep Finset.univ fun q : Fin 3 => bkit (F := F) Tb q d c i := rfl

/-- What every tile is handed alike: every barrier cell's invariant. -/
abbrev shared : sProp 𝕄 :=
  iprop(∃ κ : GSem nD τ sig → ℕ, bigSep Finset.univ fun x : DCI => cellInv EB (bRd (F := F) Tb) (κ (bcell₃ x)) (bcell₃ x))
/-- What each tile is handed of its own, for each call: its token in every sibling's cell, and the credit of its cell. -/
abbrev mine (dci : DCI) : sProp 𝕄 :=
  iprop((bigSep Finset.univ fun q : Fin 3 => bigSep Finset.univ fun j : Fin τ.nSub => dutyTok EB (bcell dci.1 dci.2.1 j) q.val dci.2.2.val)
    ∗ (bigSep Finset.univ fun q : Fin 3 => cred (tallyAt (bcell₃ dci) (some q) 16)))

/-- One tile's three kits out of those. -/
theorem kit_intro (dci : DCI) :
    iprop(shared (F := F) Tb ∗ mine (F := F) dci) ⊢ (bigSep Finset.univ fun q : Fin 3 => bkit (F := F) Tb q dci.1 dci.2.1 dci.2.2 : sProp 𝕄) := by
  obtain ⟨d, c, i⟩ := dci
  unfold bkit
  rw [bigSep_sep', bigSep_sep']
  iintro ⟨#Hinv, Htok, Hcred⟩
  dsimp only
  isplitr
  · icases Hinv with ⟨%κ, Hinv⟩
    iapply (SparseCore.ent (bigSep_mono_frame (s := (Finset.univ : Finset (Fin 3))) (Φ := fun _ => iprop(emp))
      (R := bigSep Finset.univ fun x : DCI => cellInv EB (bRd (F := F) Tb) (κ (bcell₃ x)) (bcell₃ x)) fun q _ => (by
        iintro ⟨#HR, -⟩
        iexists κ
        iapply (SparseCore.ent (bigSep_mono_frame (s := (Finset.univ : Finset (Fin τ.nSub))) (Φ := fun _ => iprop(emp))
          (R := bigSep Finset.univ fun x : DCI => cellInv EB (bRd (F := F) Tb) (κ (bcell₃ x)) (bcell₃ x)) fun j _ =>
            sep_elim_left.trans (bigSep_elim (Φ := fun x : DCI => (cellInv EB (bRd (F := F) Tb) (κ (bcell₃ x)) (bcell₃ x) : sProp 𝕄))
              (i := (d, c, j)) (Finset.mem_univ _))))
        isplitl; · iexact HR
        rw [bigSep_emp']; iempintro)))
    isplitl; · iexact Hinv
    rw [bigSep_emp']; iempintro
  isplitl [Htok]; · iexact Htok
  iexact Hcred

/-- Each tile its kits. -/
theorem kits_deal :
    iprop(shared (F := F) Tb
        ∗ (bigSep Finset.univ fun dci : DCI => bigSep Finset.univ fun q : Fin 3 => bigSep Finset.univ fun j : Fin τ.nSub =>
            dutyTok EB (bcell dci.1 dci.2.1 j) q.val dci.2.2.val)
        ∗ (bigSep Finset.univ fun dci : DCI => bigSep Finset.univ fun q : Fin 3 => cred (tallyAt (bcell₃ dci) (some q) 16)))
      ⊢ (bigSep Finset.univ fun thr : Thread nD τ => bigSep Finset.univ fun q : Fin 3 => (P (F := F) Tb Ib).x q thr : sProp 𝕄) := by
  rw [SparseCore.Cfg.bigSep_threads (fun thr : Thread nD τ => bigSep Finset.univ fun q : Fin 3 => (P (F := F) Tb Ib).x q thr)]
  simp only [Px_T, Px_S, Px_V, bigSep_emp']
  iintro ⟨#Hsh, Htok, Hcred⟩
  isplitr; · iempintro
  isplitr; · iempintro
  iapply (bigSep_mono_frame (R := shared (F := F) Tb) (Φ := mine (F := F)) fun dci _ => kit_intro (F := F) Tb dci)
  isplitr; · iexact Hsh
  unfold mine
  rw [bigSep_sep']
  isplitl [Htok]; · iexact Htok
  iexact Hcred

omit [FloatOps F] in
/-- The tokens as the deal wants them: per tile, per call, per sibling cell. -/
theorem toks_deal : (bigSep bToks fun x => (dutyTok EB x.1 x.2.1 x.2.2 : sProp 𝕄))
    = bigSep Finset.univ fun dci : DCI => bigSep Finset.univ fun q : Fin 3 => bigSep Finset.univ fun j : Fin τ.nSub =>
        dutyTok EB (bcell dci.1 dci.2.1 j) q.val dci.2.2.val := by
  rw [toks_eq, bigSep_univ_prod,
    bigSep_univ_prod (fun dci : DCI => bigSep Finset.univ fun q : Fin 3 => bigSep Finset.univ fun j : Fin τ.nSub =>
        (dutyTok EB (bcell dci.1 dci.2.1 j) q.val dci.2.2.val : sProp 𝕄))]
  refine bigSep_congr fun d _ => ?_
  rw [bigSep_univ_prod, bigSep_univ_prod (fun ci : Fin τ.nSC × Fin τ.nSub => bigSep Finset.univ fun q : Fin 3 => bigSep Finset.univ fun j : Fin τ.nSub =>
        (dutyTok EB (bcell d ci.1 j) q.val ci.2.val : sProp 𝕄))]
  refine bigSep_congr fun c _ => ?_
  exact toks_regroup d c

omit [FloatOps F] in
/-- Every device's barrier cells at the origin of round 0. -/
theorem carry_deal :
    iprop((bigSep Finset.univ fun x : DCI => (atPos EB (bcell₃ x) 0 ∅ 0 : sProp 𝕄)) ∗ bigSep Finset.univ fun x : DCI => reached EB (bcell₃ x) 0)
      ⊢ bigSep Finset.univ fun d : Dev nD => bigSep Finset.univ fun ci : Fin τ.nSC × Fin τ.nSub => barCarry (F := F) 0 d ci.1 ci.2 := by
  unfold barCarry
  rw [← bigSep_sep', bigSep_univ_prod]

theorem hu₀ : iprop(ownU (u₀ (F := F)) ∗ (P (F := F) Tb Ib).oxCred ∗ (K (F := F)).freeSems0)
    ⊢ |={Set.univ}=> iprop(BI.own (EH (initOf (K (F := F)).hsCells (K (F := F)).hsToks)) ∗ (bigSep Finset.univ (G (F := F)))
        ∗ (bigSep Finset.univ fun thr : Thread nD τ => bigSep Finset.univ fun q : Fin 3 => (P (F := F) Tb Ib).x q thr) : sProp 𝕄) := by
  unfold u₀
  iintro ⟨Hu, Hcred, Hfree⟩
  ihave H := (ownU_split _ _ _) $$ Hu
  icases H with ⟨HH, HB, HR⟩
  imod (Rounds.fund EB (bRd (F := F) Tb) bCells bToks) $$ HB with ⟨Hst, #Hr, Hat, Htok⟩
  imod (Pipeline.fund_ghost (nD := nD) (τ := τ) cfgs (ER (F := F)) cellOf_inj) $$ HR with ⟨Hcg, Hti⟩
  ihave Hsems := (sems_b (F := F)) $$ Hfree
  imod (invs_b (F := F) Tb) $$ [Hsems Hst] with ⟨%κ, #Hinv⟩
  · isplitl [Hsems] <;> iassumption
  ihave Hcred' := (creds_b Tb Ib) $$ Hcred
  ihave Hinv' := (Entails.of_eq (bCells_eq (F := F) fun g => cellInv EB (bRd (F := F) Tb) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_deal (F := F))) $$ Htok
  imodintro
  isplitl [HH]; · iexact HH
  isplitl [Hat' Hcg Hti]
  · unfold G
    rw [bigSep_sep', bigSep_sep']
    isplitl [Hat']
    · iapply (carry_deal (F := F))
      isplitl [Hat']; · iexact Hat'
      iexact Hr'
    isplitl [Hcg]; · iexact Hcg
    iexact Hti
  iapply (kits_deal Tb Ib)
  isplitr
  · iexists κ; iexact Hinv'
  isplitl [Htok']; · iexact Htok'
  iexact Hcred'

end Cert.Proof.KB

end
-- ==== Proof.ScSplitK.lean ====
/-
  How one SparseCore's operands of a call split among its sixteen tasks, and how the tasks' results gather.

  The read tokens of the table and of the index table are cut sixteen ways and rejoined with the kept remainder.  The
  SparseCore's shared buffer, held whole, is cut into the sixteen stage rectangles (rows 624·i … 624·i + 623, the last
  one 640 rows: they tile rows 0 … 9999); each task returns a read token of the WHOLE buffer and the kept remainder of
  its own rectangle, so the remainders rejoin over the rectangles into the whole buffer's remainder, and that with the
  sixteen tokens is the buffer whole again.  "Cell j has reached round q" is persistent: every task gets all sixteen.
-/
import proofs.«205366_g3083786518796_cont_9to1_852_38_alg».proof.Proof.ScPayK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 3) (Elt F) ℕ UU ℕ

/-! ## The stage rectangles tile the table's rows -/

theorem stage_disjoint : ∀ i ∈ (Finset.univ : Finset (Fin 16)), ∀ j ∈ (Finset.univ : Finset (Fin 16)), i ≠ j →
    Disjoint (stageRect i).set (stageRect j).set := fun i _ j _ h => by
  unfold stageRect
  refine Rect.unit_disjoint (0 : Fin 2) ?_
  show 624 * i.val + nStage i ≤ 624 * j.val ∨ 624 * j.val + nStage j ≤ 624 * i.val
  have hne : i.val ≠ j.val := fun e => h (Fin.ext e)
  unfold nStage
  split <;> split <;> omega

theorem stage_cover : (Finset.univ : Finset (Fin 16)).biUnion (fun i => (stageRect i).set) = Finset.univ := by
  ext x
  simp only [Finset.mem_biUnion, Finset.mem_univ, true_and, iff_true]
  have hr : (x 0).val < 10000 := (x 0).isLt
  have hc : (x 1).val < 128 := (x 1).isLt
  refine ⟨⟨min ((x 0).val / 624) 15, by omega⟩, Rect.mem_set_unit.mpr fun a => ?_⟩
  match a with
  | ⟨0, _⟩ =>
    show 624 * min ((x 0).val / 624) 15 ≤ (x 0).val ∧ (x 0).val < 624 * min ((x 0).val / 624) 15 + nStage ⟨min ((x 0).val / 624) 15, by omega⟩
    unfold nStage
    simp only
    split <;> omega
  | ⟨1, _⟩ =>
    show 0 ≤ (x 1).val ∧ (x 1).val < 0 + 128
    omega

/-! ## One call's split and join, over its locations -/

section Call

variable (ℓt ℓi ℓo : Loc nD τ sig) (ℓs : Fin τ.nSC → Loc nD τ sig)
variable (StS : (c : Fin τ.nSC) → Fin 16 → Finset (Idx (ℓs c))) (RowsO : Fin 32 → Finset (Idx ℓo))
variable (wrT : (S10000x128.Idx → F .f32) → Buf (Elt F) ℓt) (wrI : (S32x10496.Idx → BitVec 32) → Buf (Elt F) ℓi)
variable (rdO : Buf (Elt F) ℓo → S10240x128.Idx → F .f32) (wrS : (c : Fin τ.nSC) → (S10000x128.Idx → F .f32) → Buf (Elt F) (ℓs c))
variable (Tq : S10000x128.Idx → F .f32) (Iq : S32x10496.Idx → BitVec 32)

/-- The sixteen tasks' operands from their parts: each kind of part as one family, the pure fact and the sixteen
    "reached" (persistent) copied to every task. -/
theorem go_of_parts (q : ℕ) (d : Dev nD) (c : Fin 2) :
    iprop((⌜∀ w, IdxOk w Iq⌝ ∗ bigSep Finset.univ fun j : Fin 16 => reached EB (bcell d (c.castLE (by decide)) (j.castLE (by decide))) q)
        ∗ ((bigSep Finset.univ fun i : Fin 16 => (ℓt ↦{tileShare c i} wrT Tq : sProp 𝕄))
          ∗ (bigSep Finset.univ fun i : Fin 16 => (ℓi ↦{tileShare c i} wrI Iq : sProp 𝕄))
          ∗ (bigSep Finset.univ fun i : Fin 16 => (iprop(∃ fo, ℓo ↦[RowsO (wid c i)]{fullShare} fo) : sProp 𝕄))
          ∗ (bigSep Finset.univ fun i : Fin 16 => (iprop(∃ fs, ℓs (c.castLE (by decide)) ↦[StS (c.castLE (by decide)) i]{fullShare} fs) : sProp 𝕄))
          ∗ (bigSep Finset.univ fun i : Fin 16 => (atPos EB (bcell d (c.castLE (by decide)) (i.castLE (by decide))) q ∅ 0 : sProp 𝕄))))
      ⊢ bigSep Finset.univ fun i : Fin 16 => goPay ℓt ℓi ℓo ℓs StS RowsO wrT wrI Tq Iq q d c i := by
  rw [← bigSep_sep', ← bigSep_sep', ← bigSep_sep', ← bigSep_sep']
  refine bigSep_with_persistent (fun i _ => ?_)
  unfold goPay
  iintro ⟨⟨%hok, #Hre⟩, Ht, Hi, Ho, Hs, Ha⟩
  isplitl [Ht]; · iexact Ht
  isplitl [Hi]; · iexact Hi
  isplitr; · ipureintro; exact hok _
  isplitl [Ho]; · iexact Ho
  isplitl [Hs]; · iexact Hs
  isplitl [Ha]; · iexact Ha
  iexact Hre

/-- The sixteen tasks' results, each kind of part as one family. -/
theorem td_parts [FloatOps F] (q : ℕ) (d : Dev nD) (c : Fin 2) :
    (bigSep Finset.univ fun i : Fin 16 => tdPay ℓt ℓi ℓo ℓs StS RowsO wrT wrI rdO wrS Tq Iq q d c i)
      ⊢ iprop((bigSep Finset.univ fun i : Fin 16 => (ℓt ↦{tileShare c i} wrT Tq : sProp 𝕄))
          ∗ (bigSep Finset.univ fun i : Fin 16 => (ℓi ↦{tileShare c i} wrI Iq : sProp 𝕄))
          ∗ (bigSep Finset.univ fun i : Fin 16 => (iprop(∃ fo, (ℓo ↦[RowsO (wid c i)]{fullShare} fo) ∗ ⌜SumRel (wid c i) Tq Iq (rdO fo)⌝) : sProp 𝕄))
          ∗ (bigSep Finset.univ fun i : Fin 16 => (ℓs (c.castLE (by decide)) ↦{shareTok fullShare 16 i} wrS (c.castLE (by decide)) Tq : sProp 𝕄))
          ∗ (bigSep Finset.univ fun i : Fin 16 => (ℓs (c.castLE (by decide)) ↦[StS (c.castLE (by decide)) i]{shareDrop fullShare 16} wrS (c.castLE (by decide)) Tq : sProp 𝕄))
          ∗ (bigSep Finset.univ fun i : Fin 16 => barCarry (F := F) (q + 1) d (c.castLE (by decide)) (i.castLE (by decide)))) := by
  unfold tdPay
  rw [bigSep_sep', bigSep_sep', bigSep_sep', bigSep_sep', bigSep_sep']

/-- ONE CALL'S SPLIT: from a SparseCore's operands and its shared buffer whole, the sixteen tasks' operands; and from
    their results, the SparseCore's results and the shared buffer whole again. -/
theorem split_call [FloatOps F]
    (hdisj : ∀ c, ∀ i ∈ (Finset.univ : Finset (Fin 16)), ∀ j ∈ (Finset.univ : Finset (Fin 16)), i ≠ j → Disjoint (StS c i) (StS c j))
    (hcov : ∀ c, (Finset.univ : Finset (Fin 16)).biUnion (StS c) = Finset.univ)
    (q : ℕ) (d : Dev nD) (c : Fin 2) :
    iprop(stPay ℓt ℓi ℓo RowsO wrT wrI Tq Iq q d c ∗ (∃ fs, ℓs (c.castLE (by decide)) ↦{fullShare} fs))
      ⊢ |={Set.univ}=> iprop((bigSep Finset.univ fun i : Fin 16 => goPay ℓt ℓi ℓo ℓs StS RowsO wrT wrI Tq Iq q d c i)
        ∗ ((bigSep Finset.univ fun i : Fin 16 => tdPay ℓt ℓi ℓo ℓs StS RowsO wrT wrI rdO wrS Tq Iq q d c i)
            -∗ iprop(dnPay ℓt ℓi ℓo RowsO wrT wrI rdO Tq Iq q d c ∗ (∃ fs, ℓs (c.castLE (by decide)) ↦{fullShare} fs)))) := by
  have hc' : 2 ≤ τ.nSC := by decide
  unfold stPay dnPay
  iintro ⟨⟨Ht, Hi, %hok, Ho, Hbar⟩, ⟨%fs, Hs⟩⟩
  have hTs : (ℓt ↦{coreShare c} wrT Tq : sProp 𝕄)
      ⊢ iprop((ℓt ↦{shareDrop (coreShare c) 16} wrT Tq) ∗ bigSep Finset.univ fun i : Fin 16 => (ℓt ↦{tileShare c i} wrT Tq : sProp 𝕄)) :=
    Transfers.pointsTo_toks_split (coreShare c) 16
  have hIs : (ℓi ↦{coreShare c} wrI Iq : sProp 𝕄)
      ⊢ iprop((ℓi ↦{shareDrop (coreShare c) 16} wrI Iq) ∗ bigSep Finset.univ fun i : Fin 16 => (ℓi ↦{tileShare c i} wrI Iq : sProp 𝕄)) :=
    Transfers.pointsTo_toks_split (coreShare c) 16
  have hTj : iprop((ℓt ↦{shareDrop (coreShare c) 16} wrT Tq) ∗ bigSep Finset.univ fun i : Fin 16 => (ℓt ↦{tileShare c i} wrT Tq : sProp 𝕄))
      ⊢ (ℓt ↦{coreShare c} wrT Tq : sProp 𝕄) := Transfers.pointsTo_toks_join (coreShare c) 16
  have hIj : iprop((ℓi ↦{shareDrop (coreShare c) 16} wrI Iq) ∗ bigSep Finset.univ fun i : Fin 16 => (ℓi ↦{tileShare c i} wrI Iq : sProp 𝕄))
      ⊢ (ℓi ↦{coreShare c} wrI Iq : sProp 𝕄) := Transfers.pointsTo_toks_join (coreShare c) 16
  have hSj : iprop((ℓs (c.castLE hc') ↦{shareDrop fullShare 16} wrS (c.castLE hc') Tq)
        ∗ bigSep Finset.univ fun i : Fin 16 => (ℓs (c.castLE hc') ↦{shareTok fullShare 16 i} wrS (c.castLE hc') Tq : sProp 𝕄))
      ⊢ (ℓs (c.castLE hc') ↦{fullShare} wrS (c.castLE hc') Tq : sProp 𝕄) := Transfers.pointsTo_toks_join fullShare 16
  have hSrows : ∀ (qs : PosShare TreeShare) (g : Buf (Elt F) (ℓs (c.castLE hc'))),
      (ℓs (c.castLE hc') ↦{qs} g : sProp 𝕄)
        = bigSep Finset.univ fun i : Fin 16 => (ℓs (c.castLE hc') ↦[StS (c.castLE hc') i]{qs} g : sProp 𝕄) := fun qs g => by
    rw [← pointsTo_biUnion Finset.univ (ℓ := ℓs (c.castLE hc')) (StS (c.castLE hc')) (hdisj _), hcov]; try rfl
  have hBar : (bigSep Finset.univ fun i : Fin 16 => barCarry (F := F) q d (c.castLE hc') (i.castLE (by decide)))
      = iprop((bigSep Finset.univ fun i : Fin 16 => (atPos EB (bcell d (c.castLE hc') (i.castLE (by decide))) q ∅ 0 : sProp 𝕄))
          ∗ bigSep Finset.univ fun i : Fin 16 => (reached EB (bcell d (c.castLE hc') (i.castLE (by decide))) q : sProp 𝕄)) := by
    unfold barCarry; rw [bigSep_sep']
  have hSex : (ℓs (c.castLE hc') ↦{fullShare} fs : sProp 𝕄)
      ⊢ bigSep Finset.univ fun i : Fin 16 => (iprop(∃ fs, ℓs (c.castLE hc') ↦[StS (c.castLE hc') i]{fullShare} fs) : sProp 𝕄) := by
    rw [hSrows fullShare fs]
    exact bigSep_mono fun i _ => BI.BIClass.exists_intro (Φ := fun f => (ℓs (c.castLE hc') ↦[StS (c.castLE hc') i]{fullShare} f : sProp 𝕄)) fs
  have hSdj : (bigSep Finset.univ fun i : Fin 16 => (ℓs (c.castLE hc') ↦[StS (c.castLE hc') i]{shareDrop fullShare 16} wrS (c.castLE hc') Tq : sProp 𝕄))
      ⊢ (ℓs (c.castLE hc') ↦{shareDrop fullShare 16} wrS (c.castLE hc') Tq : sProp 𝕄) := Entails.of_eq (hSrows _ _).symm
  ihave Ht' := hTs $$ Ht
  icases Ht' with ⟨Htd, Htt⟩
  ihave Hi' := hIs $$ Hi
  icases Hi' with ⟨Hid, Hit⟩
  ihave Hs' := hSex $$ Hs
  ihave Hbar' := (Entails.of_eq hBar) $$ Hbar
  icases Hbar' with ⟨Hat, #Hre⟩
  imodintro
  isplitl [Htt Hit Ho Hs' Hat]
  · iapply (go_of_parts ℓt ℓi ℓo ℓs StS RowsO wrT wrI Tq Iq q d c)
    isplitr
    · isplitr; · ipureintro; exact hok
      iexact Hre
    isplitl [Htt]; · iexact Htt
    isplitl [Hit]; · iexact Hit
    isplitl [Ho]; · iexact Ho
    isplitl [Hs']; · iexact Hs'
    iexact Hat
  iintro Htd_all
  ihave H := (td_parts ℓt ℓi ℓo ℓs StS RowsO wrT wrI rdO wrS Tq Iq q d c) $$ Htd_all
  icases H with ⟨Ht2, Hi2, Ho2, Hsk, Hsd, Hb2⟩
  isplitl [Htd Ht2 Hid Hi2 Ho2 Hb2]
  · isplitl [Htd Ht2]
    · iapply hTj
      isplitl [Htd]; · iexact Htd
      iexact Ht2
    isplitl [Hid Hi2]
    · iapply hIj
      isplitl [Hid]; · iexact Hid
      iexact Hi2
    isplitl [Ho2]; · iexact Ho2
    iexact Hb2
  iexists (wrS (c.castLE hc') Tq)
  iapply hSj
  isplitl [Hsd]
  · iapply hSdj
    iexact Hsd
  iexact Hsk

end Call

/-! ## The three calls -/

/-- A SparseCore's shared buffer is among its sequencer's own buffers: it, at some contents, and the rest. -/
theorem ownBufs_sh (d : Dev nD) (c : Fin τ.nSC) (b : DevRef τ sig) (hb : b.owner.home = .scScalar c) :
    (ownBufs (S d c) : sProp 𝕄)
      = iprop((∃ f, ((d, b) : Loc nD τ sig) ↦{fullShare} f)
          ∗ bigSep ((ownRefs (τ := τ) (.scScalar c)).erase b) fun b => iprop(∃ f, ((d, b) : Loc nD τ sig) ↦{fullShare} f)) := by
  unfold SparseCore.Cfg.ownBufs
  have h : b ∈ ownRefs (τ := τ) (sig := sig) (.scScalar c) := (mem_ownRefs (p := Proc.scScalar c) (b := b)).mpr hb
  exact SparseCore.bigSep_erase' h

/-- A family over a call's tasks is the family over the sixteen tiles. -/
theorem bigSep_tasks (q : Fin 3) (Φ : Fin 16 → sProp 𝕄) :
    (bigSep Finset.univ fun i : Fin ((K (F := F)).nSub q) => Φ (Fin.cast (nSub_eq (F := F) q) i)) = bigSep Finset.univ Φ := by
  match q with
  | 0 => exact bigSep_congr fun _ _ => congrArg Φ (Fin.ext rfl)
  | 1 => exact bigSep_congr fun _ _ => congrArg Φ (Fin.ext rfl)
  | 2 => exact bigSep_congr fun _ _ => congrArg Φ (Fin.ext rfl)

variable (Tb : Fin 3 → Dev nD → S10000x128.Idx → F .f32) (Ib : Dev nD → S32x10496.Idx → BitVec 32)
variable [FloatOps F]

set_option maxHeartbeats 1000000 in
theorem vecSplit0 : (K (F := F)).VecSplit (P (F := F) Tb Ib) 0 := by
  intro d c
  have hc' : 2 ≤ τ.nSC := by decide
  have hcore : (K (F := F)).core 0 c = (Fin.cast (nCore_eq (F := F) 0) c).castLE hc' := Fin.ext rfl
  show iprop(stPay (tab0 d) (idxLoc d) (out0 d) (fun w => (outRect w).set) (wrT0 d) (wrI d) (Tb 0 d) (Ib d) 0 d (Fin.cast (nCore_eq (F := F) 0) c)
        ∗ ownBufs (S d ((K (F := F)).core 0 c)))
      ⊢ |={Set.univ}=> iprop(
        (bigSep Finset.univ fun i : Fin ((K (F := F)).nSub 0) =>
          goPay (tab0 d) (idxLoc d) (out0 d) (sh0 d) (fun _ n => (stageRect n).set) (fun w => (outRect w).set) (wrT0 d) (wrI d) (Tb 0 d) (Ib d) 0 d
            (Fin.cast (nCore_eq (F := F) 0) c) (Fin.cast (nSub_eq (F := F) 0) i))
        ∗ ((bigSep Finset.univ fun i : Fin ((K (F := F)).nSub 0) =>
            tdPay (tab0 d) (idxLoc d) (out0 d) (sh0 d) (fun _ n => (stageRect n).set) (fun w => (outRect w).set) (wrT0 d) (wrI d) (rdO0 d) (wrS0 d) (Tb 0 d) (Ib d) 0 d
              (Fin.cast (nCore_eq (F := F) 0) c) (Fin.cast (nSub_eq (F := F) 0) i))
          -∗ iprop(dnPay (tab0 d) (idxLoc d) (out0 d) (fun w => (outRect w).set) (wrT0 d) (wrI d) (rdO0 d) (Tb 0 d) (Ib d) 0 d (Fin.cast (nCore_eq (F := F) 0) c)
              ∗ ownBufs (S d ((K (F := F)).core 0 c)))))
  rw [bigSep_tasks (F := F) 0 (fun i => goPay (tab0 d) (idxLoc d) (out0 d) (sh0 d) (fun _ n => (stageRect n).set) (fun w => (outRect w).set) (wrT0 d) (wrI d) (Tb 0 d) (Ib d) 0 d
        (Fin.cast (nCore_eq (F := F) 0) c) i),
    bigSep_tasks (F := F) 0 (fun i => tdPay (tab0 d) (idxLoc d) (out0 d) (sh0 d) (fun _ n => (stageRect n).set) (fun w => (outRect w).set) (wrT0 d) (wrI d) (rdO0 d) (wrS0 d) (Tb 0 d) (Ib d) 0 d
        (Fin.cast (nCore_eq (F := F) 0) c) i),
    hcore, ownBufs_sh (F := F) d _ (shRef0 ((Fin.cast (nCore_eq (F := F) 0) c).castLE hc')) rfl]
  iintro ⟨Hst, Hsh, Hrest⟩
  imod (split_call (tab0 d) (idxLoc d) (out0 d) (sh0 d) (fun _ n => (stageRect n).set) (fun w => (outRect w).set) (wrT0 d) (wrI d) (rdO0 d) (wrS0 d) (Tb 0 d) (Ib d)
      (fun _ => stage_disjoint) (fun _ => stage_cover) 0 d (Fin.cast (nCore_eq (F := F) 0) c)) $$ [Hst Hsh] with H
  · isplitl [Hst]; · iexact Hst
    iexact Hsh
  icases H with ⟨Hgo, Hj⟩
  imodintro
  isplitl [Hgo]; · iexact Hgo
  iintro Htd
  ihave H := Hj $$ Htd
  icases H with ⟨Hdn, Hsh⟩
  isplitl [Hdn]; · iexact Hdn
  isplitl [Hsh]; · iexact Hsh
  iexact Hrest

set_option maxHeartbeats 1000000 in
theorem vecSplit1 : (K (F := F)).VecSplit (P (F := F) Tb Ib) 1 := by
  intro d c
  have hc' : 2 ≤ τ.nSC := by decide
  have hcore : (K (F := F)).core 1 c = (Fin.cast (nCore_eq (F := F) 1) c).castLE hc' := Fin.ext rfl
  show iprop(stPay (tab1 d) (idxLoc d) (out1 d) (fun w => (outRect w).set) (wrT1 d) (wrI d) (Tb 1 d) (Ib d) 1 d (Fin.cast (nCore_eq (F := F) 1) c)
        ∗ ownBufs (S d ((K (F := F)).core 1 c)))
      ⊢ |={Set.univ}=> iprop(
        (bigSep Finset.univ fun i : Fin ((K (F := F)).nSub 1) =>
          goPay (tab1 d) (idxLoc d) (out1 d) (sh1 d) (fun _ n => (stageRect n).set) (fun w => (outRect w).set) (wrT1 d) (wrI d) (Tb 1 d) (Ib d) 1 d
            (Fin.cast (nCore_eq (F := F) 1) c) (Fin.cast (nSub_eq (F := F) 1) i))
        ∗ ((bigSep Finset.univ fun i : Fin ((K (F := F)).nSub 1) =>
            tdPay (tab1 d) (idxLoc d) (out1 d) (sh1 d) (fun _ n => (stageRect n).set) (fun w => (outRect w).set) (wrT1 d) (wrI d) (rdO1 d) (wrS1 d) (Tb 1 d) (Ib d) 1 d
              (Fin.cast (nCore_eq (F := F) 1) c) (Fin.cast (nSub_eq (F := F) 1) i))
          -∗ iprop(dnPay (tab1 d) (idxLoc d) (out1 d) (fun w => (outRect w).set) (wrT1 d) (wrI d) (rdO1 d) (Tb 1 d) (Ib d) 1 d (Fin.cast (nCore_eq (F := F) 1) c)
              ∗ ownBufs (S d ((K (F := F)).core 1 c)))))
  rw [bigSep_tasks (F := F) 1 (fun i => goPay (tab1 d) (idxLoc d) (out1 d) (sh1 d) (fun _ n => (stageRect n).set) (fun w => (outRect w).set) (wrT1 d) (wrI d) (Tb 1 d) (Ib d) 1 d
        (Fin.cast (nCore_eq (F := F) 1) c) i),
    bigSep_tasks (F := F) 1 (fun i => tdPay (tab1 d) (idxLoc d) (out1 d) (sh1 d) (fun _ n => (stageRect n).set) (fun w => (outRect w).set) (wrT1 d) (wrI d) (rdO1 d) (wrS1 d) (Tb 1 d) (Ib d) 1 d
        (Fin.cast (nCore_eq (F := F) 1) c) i),
    hcore, ownBufs_sh (F := F) d _ (shRef1 ((Fin.cast (nCore_eq (F := F) 1) c).castLE hc')) rfl]
  iintro ⟨Hst, Hsh, Hrest⟩
  imod (split_call (tab1 d) (idxLoc d) (out1 d) (sh1 d) (fun _ n => (stageRect n).set) (fun w => (outRect w).set) (wrT1 d) (wrI d) (rdO1 d) (wrS1 d) (Tb 1 d) (Ib d)
      (fun _ => stage_disjoint) (fun _ => stage_cover) 1 d (Fin.cast (nCore_eq (F := F) 1) c)) $$ [Hst Hsh] with H
  · isplitl [Hst]; · iexact Hst
    iexact Hsh
  icases H with ⟨Hgo, Hj⟩
  imodintro
  isplitl [Hgo]; · iexact Hgo
  iintro Htd
  ihave H := Hj $$ Htd
  icases H with ⟨Hdn, Hsh⟩
  isplitl [Hdn]; · iexact Hdn
  isplitl [Hsh]; · iexact Hsh
  iexact Hrest

set_option maxHeartbeats 1000000 in
theorem vecSplit2 : (K (F := F)).VecSplit (P (F := F) Tb Ib) 2 := by
  intro d c
  have hc' : 2 ≤ τ.nSC := by decide
  have hcore : (K (F := F)).core 2 c = (Fin.cast (nCore_eq (F := F) 2) c).castLE hc' := Fin.ext rfl
  show iprop(stPay (tab2 d) (idxLoc d) (out2 d) (fun w => (outRect w).set) (wrT2 d) (wrI d) (Tb 2 d) (Ib d) 2 d (Fin.cast (nCore_eq (F := F) 2) c)
        ∗ ownBufs (S d ((K (F := F)).core 2 c)))
      ⊢ |={Set.univ}=> iprop(
        (bigSep Finset.univ fun i : Fin ((K (F := F)).nSub 2) =>
          goPay (tab2 d) (idxLoc d) (out2 d) (sh2 d) (fun _ n => (stageRect n).set) (fun w => (outRect w).set) (wrT2 d) (wrI d) (Tb 2 d) (Ib d) 2 d
            (Fin.cast (nCore_eq (F := F) 2) c) (Fin.cast (nSub_eq (F := F) 2) i))
        ∗ ((bigSep Finset.univ fun i : Fin ((K (F := F)).nSub 2) =>
            tdPay (tab2 d) (idxLoc d) (out2 d) (sh2 d) (fun _ n => (stageRect n).set) (fun w => (outRect w).set) (wrT2 d) (wrI d) (rdO2 d) (wrS2 d) (Tb 2 d) (Ib d) 2 d
              (Fin.cast (nCore_eq (F := F) 2) c) (Fin.cast (nSub_eq (F := F) 2) i))
          -∗ iprop(dnPay (tab2 d) (idxLoc d) (out2 d) (fun w => (outRect w).set) (wrT2 d) (wrI d) (rdO2 d) (Tb 2 d) (Ib d) 2 d (Fin.cast (nCore_eq (F := F) 2) c)
              ∗ ownBufs (S d ((K (F := F)).core 2 c)))))
  rw [bigSep_tasks (F := F) 2 (fun i => goPay (tab2 d) (idxLoc d) (out2 d) (sh2 d) (fun _ n => (stageRect n).set) (fun w => (outRect w).set) (wrT2 d) (wrI d) (Tb 2 d) (Ib d) 2 d
        (Fin.cast (nCore_eq (F := F) 2) c) i),
    bigSep_tasks (F := F) 2 (fun i => tdPay (tab2 d) (idxLoc d) (out2 d) (sh2 d) (fun _ n => (stageRect n).set) (fun w => (outRect w).set) (wrT2 d) (wrI d) (rdO2 d) (wrS2 d) (Tb 2 d) (Ib d) 2 d
        (Fin.cast (nCore_eq (F := F) 2) c) i),
    hcore, ownBufs_sh (F := F) d _ (shRef2 ((Fin.cast (nCore_eq (F := F) 2) c).castLE hc')) rfl]
  iintro ⟨Hst, Hsh, Hrest⟩
  imod (split_call (tab2 d) (idxLoc d) (out2 d) (sh2 d) (fun _ n => (stageRect n).set) (fun w => (outRect w).set) (wrT2 d) (wrI d) (rdO2 d) (wrS2 d) (Tb 2 d) (Ib d)
      (fun _ => stage_disjoint) (fun _ => stage_cover) 2 d (Fin.cast (nCore_eq (F := F) 2) c)) $$ [Hst Hsh] with H
  · isplitl [Hst]; · iexact Hst
    iexact Hsh
  icases H with ⟨Hgo, Hj⟩
  imodintro
  isplitl [Hgo]; · iexact Hgo
  iintro Htd
  ihave H := Hj $$ Htd
  icases H with ⟨Hdn, Hsh⟩
  isplitl [Hdn]; · iexact Hdn
  isplitl [Hsh]; · iexact Hsh
  iexact Hrest

/-- How a SparseCore's operands of call `q` split among its sixteen tasks, and their results gather. -/
theorem vecSplit (q : Fin 3) : (K (F := F)).VecSplit (P (F := F) Tb Ib) q :=
  match q with
  | 0 => vecSplit0 Tb Ib
  | 1 => vecSplit1 Tb Ib
  | 2 => vecSplit2 Tb Ib

end Cert.Proof.KB

end
-- ==== Proof.BodyDefsK.lean ====
/-
  The SparseCore gather-sum kernel, as one vector subcore runs it: what the subcore is handed and what it hands back.

  Worker `wid = 2 s + c` (subcore `s` of SparseCore `c`) copies row `wid` of the index table into its index scratch, copies
  its stripe of the table (rows `624 s … 624 s + n`, `n = 640` for `s = 15` and `624` otherwise) into the SparseCore's shared
  memory, meets the sixteen subcores of its SparseCore at the subcore barrier, and then, forty times for each of two slots,
  gathers 128 rows of the shared table named by the next 128 indices, sums them 32 at a time along a balanced tree and
  copies the four sums out to rows `320 wid + 4 (2 t + b) …` of the result.

  The barrier carries the table: subcore `n`'s duty in subcore `j`'s round hands over the `j`-th read share of stripe `n` of the
  shared memory, holding the table's rows; leaving the barrier a subcore holds one read share of every stripe, that is, of
  the whole shared table, at the table's contents.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's configuration -/

abbrev ΛP : Labels := Pipeline.Sig Λ₀ (Fin 4) fun p => (pcfgs (F := F) p).Adm
abbrev K : SparseCore.Cfg τ sig (ΛP (F := F)) 3 := sc (F := F)
abbrev 𝒱₀ : Variants := Variants.none

theorem nSub_eq : τ.nSub = 16 := rfl
theorem bound_one : grid0.bound 1 = 16 := rfl

/-! ## The resource algebra: any, with the barrier cells' rounds library embedded and the transfers' counters inside -/

abbrev UB : Type := URounds (GSem nD τ sig) ℕ

variable {U : Type} [URA U]

local notation "𝕄" => MT nD τ sig (HIx 3) (Elt F) ℕ U ℕ

/-! ## The arrays -/

abbrev xLoc (d : Dev nD) : Loc nD τ sig := (SparseCore.T d).loc main_arg0
abbrev iLoc (d : Dev nD) : Loc nD τ sig := (SparseCore.T d).loc main_v7
abbrev oLoc (d : Dev nD) : Loc nD τ sig := (SparseCore.T d).loc main_v8
/-- SparseCore `c`'s shared table, as every subcore of it addresses it. -/
abbrev shRef (c : Fin τ.nSC) : DevRef τ sig := ⟨.shared, ⟨0, by decide⟩, c⟩
abbrev shLoc (d : Dev nD) (c : Fin τ.nSC) : Loc nD τ sig := (d, shRef c)

local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

/-! ## A subcore's place -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
abbrev jL (L : grid0.Coords) : Fin 16 := Fin.cast bound_one (L 1)
/-- The worker's number: `2 s + c`. -/
def wid (L : grid0.Coords) : ℕ := 2 * (L 1).val + (L 0).val

/-! ## The pieces, spelt as the program slices them -/

/-- Row `wid` of the index table. -/
abbrev iRowK (L : grid0.Coords) : Memref sig .scVector .hbm S10496 .i32 :=
  ((iV).slice (Rect.unit (s := S32x10496) (k0_off1 L) S1x10496.size (k0_off1_inb L)) (fun _ => rfl)).squeeze S10496 squeezes_S1x10496_S10496
/-- The subcore's stripe of the table, and of the shared table. -/
abbrev xStripeK (L : grid0.Coords) : Memref sig .scVector .hbm ⟨2, (k0_off2 L).2⟩ .f32 :=
  (xV).slice (Rect.unit (s := S10000x128) (k0_off2 L).1 (k0_off2 L).2 (k0_off2_inb L)) (fun _ => rfl)
abbrev shStripeK (L : grid0.Coords) : Memref sig .scVector .shared ⟨2, (k0_off2 L).2⟩ .f32 :=
  (shV).slice (Rect.unit (s := S10000x128) (k0_off2 L).1 (k0_off2 L).2 (k0_off2_inb L)) (fun _ => rfl)
/-- The shared table whole, as the gathers address it. -/
abbrev shAllK : Memref sig .scVector .shared S10000x128 .f32 :=
  (shV).slice (Rect.unit (s := S10000x128) ![0, 0] S10000x128.size inb_S10000x128_S10000x128_0_0) (fun _ => rfl)
/-- The four result rows of trip `t`, slot `b`: rows `320 wid + 4 (2 t + b) …`. -/
abbrev oChunkK (L : grid0.Coords) (t : Fin k0_t1_loop.trips) (b : Fin 2) : Memref sig .scVector .hbm S4x128 .f32 :=
  (oV).slice (Rect.unit (s := S10240x128) (k0_off20 L t (BitVec.ofNat 32 b.val)) S4x128.size (k0_off20_inb L t b)) (fun _ => rfl)

/-- Stripe `n` of the table (the same on either SparseCore): rows `624 n …`, 640 of them for `n = 15` and 624 otherwise. -/
abbrev stripeRect (L : grid0.Coords) : Rect S10000x128 := Rect.unit (s := S10000x128) (k0_off2 L).1 (k0_off2 L).2 (k0_off2_inb L)
def core0 : Fin (grid0.bound 0) := ⟨0, by decide⟩
def stripe (n : Fin 16) : Finset S10000x128.Idx := ((xV).view.slice (stripeRect (coordsV core0 (Fin.cast bound_one.symm n)))).set
/-- The elements of row `wid` of the index table. -/
abbrev iRowSet (L : grid0.Coords) : Finset S32x10496.Idx := (iRowK L).view.set
/-- The elements of a result chunk. -/
abbrev oChunkSet (L : grid0.Coords) (t : Fin k0_t1_loop.trips) (b : Fin 2) : Finset S10240x128.Idx := (oChunkK L t b).view.set

theorem set_shStripeK (L : grid0.Coords) : (shStripeK L).view.set = stripe (jL L) := rfl
theorem set_xStripeK (L : grid0.Coords) : (xStripeK L).view.set = stripe (jL L) := rfl

/-! ## The barrier cells: the rounds' schedule, carrying the table -/

/-- Subcore `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The read share of the shared table that goes to subcore `j`. -/
abbrev shTok (j : Fin τ.nSub) : PosShare TreeShare := Transfers.shareTok fullShare τ.nSub j
/-- What a stripe's owner keeps of it. -/
abbrev shKeep : PosShare TreeShare := Transfers.shareDrop fullShare τ.nSub

/-- What the duty named `n` in subcore `j`'s round `r` hands over: subcore `j`'s read share of stripe `n` of the shared
    table, holding the table of that round (call `r` of the kernel). -/
def bPay (Tb : ℕ → Dev nD → S10000x128.Idx → Elt F .f32) (g : GSem nD τ sig) (r n : ℕ) : sProp 𝕄 :=
  match g with
  | ((d, .scVector c j), _) => if h : n < 16 then iprop(shLoc d c ↦[stripe ⟨n, h⟩]{shTok j} Tb r d) else iprop(emp)
  | _ => iprop(emp)

/-- The barrier cells' schedule: round `r < 3` (one per call of the kernel) on each, of one unit duty per subcore of the
    SparseCore (named by its number). -/
def bRd (Tb : ℕ → Dev nD → S10000x128.Idx → Elt F .f32) : Rounds.Schedule (GSem nD τ sig) ℕ 𝕄 where
  duties g r := if isBar g ∧ r < 3 then (Finset.univ : Finset (Fin τ.nSub)).image Fin.val else ∅
  amount _ _ _ := 1
  payload g r n := bPay Tb g r n
  amount_pos _ _ _ _ := Nat.one_pos

instance bRd_payload_storable (Tb : ℕ → Dev nD → S10000x128.Idx → Elt F .f32) (g : GSem nD τ sig) (r n : ℕ) :
    BI.Storable (upEmb : UEmb _ 𝕄) ((bRd (U := U) Tb).payload g r n) := by
  show BI.Storable upEmb (bPay Tb g r n)
  unfold bPay
  rcases g with ⟨⟨d, _ | c | ⟨c, i⟩⟩, sm⟩ <;> dsimp only <;> (repeat' split) <;> infer_instance

theorem bRd_duties (Tb : ℕ → Dev nD → S10000x128.Idx → Elt F .f32) (d : Dev nD) (c : Fin τ.nSC) (j : Fin τ.nSub) {r : ℕ} (hr : r < 3) :
    (bRd (U := U) Tb).duties (bcell d c j) r = (Finset.univ : Finset (Fin τ.nSub)).image Fin.val := by
  simp [bRd, isBar, hr]
theorem bRd_mem (Tb : ℕ → Dev nD → S10000x128.Idx → Elt F .f32) (d : Dev nD) (c : Fin τ.nSC) (j i : Fin τ.nSub) {r : ℕ} (hr : r < 3) :
    i.val ∈ (bRd (U := U) Tb).duties (bcell d c j) r := by
  rw [bRd_duties Tb d c j hr]; exact Finset.mem_image_of_mem _ (Finset.mem_univ i)
theorem bRd_expect (Tb : ℕ → Dev nD → S10000x128.Idx → Elt F .f32) (d : Dev nD) (c : Fin τ.nSC) (j : Fin τ.nSub) {r : ℕ} (hr : r < 3) :
    0 + grid0.bound 1 = (bRd (U := U) Tb).expect (bcell d c j) r := by
  unfold Rounds.Schedule.expect; rw [bRd_duties Tb d c j hr]
  show 0 + 16 = ∑ x ∈ (Finset.univ : Finset (Fin 16)).image Fin.val, 1
  rw [Finset.sum_const, Finset.card_image_of_injective _ Fin.val_injective]; rfl

/-- What the launch has a subcore owe for the barrier of call `q`: a unit on every subcore's cell of its SparseCore. -/
def oxV (d : Dev nD) (c : Fin τ.nSC) (q : Fin 3) : CellTallies nD τ sig (HIx 3) :=
  ∑ j : Fin (grid0.bound 1), tallyAt (bcell d c (j.castLE hsub0)) (some q) 1

theorem oxV_none (d : Dev nD) (c : Fin τ.nSC) (q : Fin 3) (g : GSem nD τ sig) : oxV d c q g none = 0 := by
  unfold oxV
  rw [Finset.sum_apply, Finsupp.finsetSum_apply]
  exact Finset.sum_eq_zero fun j _ => by rw [tallyAt_apply, if_neg (fun e => nomatch e.2)]

/-- Subcore `(c, i)`'s barrier kit for round `r` (call `q`): every subcore's cell invariant of its SparseCore and that each has
    reached round `r`, its own position at the origin of round `r`, its duty token in every subcore's round `r`, and the
    credit for the sixteen units of its own round. -/
def bkit (EB : Emb (URounds (GSem nD τ sig) ℕ) (MT nD τ sig (HIx 3) (Elt F) ℕ U ℕ)) (Tb : ℕ → Dev nD → S10000x128.Idx → Elt F .f32) (r : ℕ) (q : Fin 3) (d : Dev nD) (c : Fin τ.nSC) (i : Fin τ.nSub) : sProp 𝕄 :=
  iprop((∃ κ : GSem nD τ sig → ℕ, bigSep Finset.univ fun j : Fin (grid0.bound 1) =>
      cellInv EB (bRd (U := U) Tb) (κ (bcell d c (j.castLE hsub0))) (bcell d c (j.castLE hsub0)))
    ∗ (bigSep Finset.univ fun j : Fin (grid0.bound 1) => dutyTok EB (bcell d c (j.castLE hsub0)) r i.val)
    ∗ (bigSep Finset.univ fun j : Fin (grid0.bound 1) => reached (D := ℕ) EB (bcell d c (j.castLE hsub0)) r)
    ∗ atPos EB (bcell d c i) r (∅ : Finset ℕ) 0
    ∗ cred (tallyAt (bcell d c i) (some q) (grid0.bound 1)))

/-! ## What a subcore is handed, and what it hands back -/

section Tile

variable (d : Dev nD) (L : grid0.Coords)

/-- Handed to subcore `L`: a read share `qx` of the table (contents `Tx`), a share `qi` of row `wid` of the index table
    (contents `Ix`), its eighty result chunks outright (contents `fo`), and its stripe of the shared table outright. -/
def goT (qx qi : PosShare TreeShare) (Tx : S10000x128.Idx → Elt F .f32) (Ix : S32x10496.Idx → Elt F .i32) (fo : S10240x128.Idx → Elt F .f32) : sProp 𝕄 :=
  iprop((xLoc d ↦{qx} Tx) ∗ (iLoc d ↦[iRowSet L]{qi} Ix)
    ∗ (bigSep Finset.univ fun tb : Fin k0_t1_loop.trips × Fin 2 => oLoc d ↦[oChunkSet L tb.1 tb.2]{fullShare} fo)
    ∗ ∃ f, shLoc d (cV L) ↦[stripe (jL L)]{fullShare} f)

/-- Handed back: the same shares of the table and of the index row; the result chunks, written; its read share of the WHOLE
    shared table and what it kept of its own stripe, both holding the table. -/
def tdT (qx qi : PosShare TreeShare) (Tx : S10000x128.Idx → Elt F .f32) (Ix : S32x10496.Idx → Elt F .i32) : sProp 𝕄 :=
  iprop((xLoc d ↦{qx} Tx) ∗ (iLoc d ↦[iRowSet L]{qi} Ix)
    ∗ (bigSep Finset.univ fun tb : Fin k0_t1_loop.trips × Fin 2 => iprop(∃ f, oLoc d ↦[oChunkSet L tb.1 tb.2]{fullShare} f))
    ∗ (shLoc d (cV L) ↦{shTok (jV L)} Tx) ∗ (shLoc d (cV L) ↦[stripe (jL L)]{shKeep} Tx))

end Tile

end Cert.Proof.TileB

end
-- ==== Proof.BodyLemmasK.lean ====
/-
  Geometry and bookkeeping for the gather-sum kernel's subcore body: the arrays as the subcore addresses them, the slots of
  the row and result scratches, the windows of the index scratch; the stripes of the table partition it; what the barrier's
  duties hand over and what a round collects; what the stage copy and the index copy leave; the index windows name rows.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsK

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

section Body
variable (d : Dev nD) (L : grid0.Coords)

abbrev thr : Thread nD τ := V d (cV L) (jV L)
abbrev g0sem : DmaSem sig := ((cc0_scratch4.slice (Rect.unit (s := S2) ![0] S1.size inb_S2_S1_0)).squeeze S_ squeezes_S1_S_).sem
abbrev g1sem : DmaSem sig := ((cc0_scratch4.slice (Rect.unit (s := S2) ![1] S1.size inb_S2_S1_1)).squeeze S_ squeezes_S1_S_).sem
abbrev o0sem : DmaSem sig := ((cc0_scratch5.slice (Rect.unit (s := S2) ![0] S1.size inb_S2_S1_0)).squeeze S_ squeezes_S1_S_).sem
abbrev o1sem : DmaSem sig := ((cc0_scratch5.slice (Rect.unit (s := S2) ![1] S1.size inb_S2_S1_1)).squeeze S_ squeezes_S1_S_).sem
abbrev cell (sm : DmaSem sig) : GSem nD τ sig := (V d (cV L) (jV L), .dma sm)

theorem pts_x (q : PosShare TreeShare) (f : S10000x128.Idx → Elt F .f32) :
    ((xV).view.loc (V d (cV L) (jV L)) ↦{q} f : sProp 𝕄) = xLoc d ↦{q} f := rfl
theorem pts_iRow (q : PosShare TreeShare) (f : S32x10496.Idx → Elt F .i32) :
    ((iRowK L).view.loc (V d (cV L) (jV L)) ↦[(iRowK L).view.set]{q} f : sProp 𝕄) = iLoc d ↦[iRowSet L]{q} f := rfl
theorem pts_shStripe (q : PosShare TreeShare) (f : S10000x128.Idx → Elt F .f32) :
    ((shStripeK L).view.loc (V d (cV L) (jV L)) ↦[(shStripeK L).view.set]{q} f : sProp 𝕄) = shLoc d (cV L) ↦[stripe (jL L)]{q} f := rfl
theorem pts_oChunk (t : Fin k0_t1_loop.trips) (b : Fin 2) (f : S10240x128.Idx → Elt F .f32) :
    ((oChunkK L t b).view.loc (V d (cV L) (jV L)) ↦[(oChunkK L t b).view.set]{fullShare} f : sProp 𝕄) = oLoc d ↦[oChunkSet L t b]{fullShare} f := rfl

theorem pts_ix (f : Buf (Elt F) ((V d (cV L) (jV L)).loc cc0_scratch0)) :
    ((ixV).view.loc (V d (cV L) (jV L)) ↦{fullShare} f : sProp 𝕄) = (V d (cV L) (jV L)).loc cc0_scratch0 ↦{fullShare} f := rfl
theorem pts_rw (f : Buf (Elt F) ((V d (cV L) (jV L)).loc cc0_scratch1)) :
    ((rwV).view.loc (V d (cV L) (jV L)) ↦{fullShare} f : sProp 𝕄) = (V d (cV L) (jV L)).loc cc0_scratch1 ↦{fullShare} f := rfl
theorem pts_ob (f : Buf (Elt F) ((V d (cV L) (jV L)).loc cc0_scratch2)) :
    ((obV).view.loc (V d (cV L) (jV L)) ↦{fullShare} f : sProp 𝕄) = (V d (cV L) (jV L)).loc cc0_scratch2 ↦{fullShare} f := rfl

abbrev rwK0 : Memref sig .scVector .vmem S128x128 .f32 :=
  ((rwV).slice (Rect.unit (s := S2x128x128) ![0, 0, 0] S1x128x128.size inb_S2x128x128_S1x128x128_0_0_0) (fun _ => rfl)).squeeze S128x128 squeezes_S1x128x128_S128x128
abbrev rwK1 : Memref sig .scVector .vmem S128x128 .f32 :=
  ((rwV).slice (Rect.unit (s := S2x128x128) ![1, 0, 0] S1x128x128.size inb_S2x128x128_S1x128x128_1_0_0) (fun _ => rfl)).squeeze S128x128 squeezes_S1x128x128_S128x128
abbrev obK0 : Memref sig .scVector .vmem S4x128 .f32 :=
  ((obV).slice (Rect.unit (s := S2x4x128) ![0, 0, 0] S1x4x128.size inb_S2x4x128_S1x4x128_0_0_0) (fun _ => rfl)).squeeze S4x128 squeezes_S1x4x128_S4x128
abbrev obK1 : Memref sig .scVector .vmem S4x128 .f32 :=
  ((obV).slice (Rect.unit (s := S2x4x128) ![1, 0, 0] S1x4x128.size inb_S2x4x128_S1x4x128_1_0_0) (fun _ => rfl)).squeeze S4x128 squeezes_S1x4x128_S4x128
/-- The `n`-th window of 128 entries of the index scratch. -/
abbrev ixWinK (n : ℕ) (h : ∀ a, (![128 * n] : Fin 1 → ℕ) a + S128.size a ≤ S10496.size a) : Memref sig .scVector .vmem S128 .i32 :=
  (ixV).slice (Rect.unit (s := S10496) ![128 * n] S128.size h) (fun _ => rfl)

/-! ## The stripes of the table -/

theorem k0_off2_eq : ∀ L : grid0.Coords, k0_off2 L = (![624 * (L 1).val, 0], ![if (L 1).val = 15 then 640 else 624, 128]) := by decide +kernel

theorem stripe_eq_set (n : Fin 16) : stripe n = (stripeRect (coordsV core0 (Fin.cast bound_one.symm n))).set := by
  unfold stripe; exact View.set_slice_whole _ _

theorem mem_stripe (n : Fin 16) (x : S10000x128.Idx) :
    x ∈ stripe n ↔ 624 * n.val ≤ (x 0 : ℕ) ∧ (x 0 : ℕ) < 624 * n.val + (if n.val = 15 then 640 else 624) := by
  have h1 : (coordsV core0 (Fin.cast bound_one.symm n)) 1 = Fin.cast bound_one.symm n := rfl
  rw [stripe_eq_set, stripeRect, Rect.mem_set_unit, k0_off2_eq, h1]
  constructor
  · intro h; have := h 0; simpa using this
  · intro h a
    match a with
    | 0 => simpa using h
    | 1 => exact ⟨Nat.zero_le _, by simpa using (x 1).isLt⟩

theorem stripes_disjoint : ∀ i ∈ (Finset.univ : Finset (Fin 16)), ∀ j ∈ (Finset.univ : Finset (Fin 16)), i ≠ j → Disjoint (stripe i) (stripe j) := by
  intro i _ j _ hij
  rw [Finset.disjoint_left]
  intro x hi hj
  rw [mem_stripe] at hi hj
  have : i.val ≠ j.val := fun h => hij (Fin.ext h)
  have hi' := i.isLt; have hj' := j.isLt
  split_ifs at hi hj <;> omega

theorem stripes_cover : (Finset.univ : Finset (Fin 16)).biUnion stripe = Finset.univ := by
  ext x
  simp only [Finset.mem_biUnion, Finset.mem_univ, true_and, iff_true]
  have hx : (x 0 : ℕ) < 10000 := (x 0).isLt
  by_cases h : (x 0 : ℕ) < 624 * 15
  · refine ⟨⟨(x 0 : ℕ) / 624, by omega⟩, (mem_stripe _ _).mpr ?_⟩
    have : ((x 0 : ℕ) / 624) ≠ 15 := by omega
    simp only [this, if_false]
    omega
  · exact ⟨⟨15, by decide⟩, (mem_stripe _ _).mpr (by simp; omega)⟩

/-! ## The barrier's payloads -/

theorem pays_intro (Tb : ℕ → Dev nD → S10000x128.Idx → Elt F .f32) (Tx : S10000x128.Idx → Elt F .f32) (hTb : Tb 0 d = Tx) :
    iprop(shLoc d (cV L) ↦[stripe (jL L)]{fullShare} Tx)
    ⊢ (iprop((shLoc d (cV L) ↦[stripe (jL L)]{shKeep} Tx)
        ∗ bigSep Finset.univ fun j : Fin (grid0.bound 1) => (bRd (U := U) Tb).payload (bcell d (cV L) (j.castLE hsub0)) 0 (jV L).val) : sProp 𝕄) := by
  have hp : ∀ j : Fin (grid0.bound 1), (bRd (U := U) Tb).payload (bcell d (cV L) (j.castLE hsub0)) 0 (jV L).val
      = (shLoc d (cV L) ↦[stripe (jL L)]{shTok (j.castLE hsub0)} Tx : sProp 𝕄) := fun j => by
    show bPay Tb (bcell d (cV L) (j.castLE hsub0)) 0 (jV L).val = _
    unfold bPay; dsimp only
    rw [dif_pos (show (jV L).val < 16 from (jV L).isLt), hTb]
    rfl
  rw [bigSep_congr fun j _ => hp j]
  exact Transfers.pointsTo_toks_split fullShare τ.nSub

theorem pays_elim (Tb : ℕ → Dev nD → S10000x128.Idx → Elt F .f32) (Tx : S10000x128.Idx → Elt F .f32) (hTb : Tb 0 d = Tx) :
    (bigSep ((bRd (U := U) Tb).duties (bcell d (cV L) (jV L)) 0 \ ∅) fun n => (bRd (U := U) Tb).payload (bcell d (cV L) (jV L)) 0 n)
    ⊢ (iprop(shLoc d (cV L) ↦{shTok (jV L)} Tx) : sProp 𝕄) := by
  rw [Finset.sdiff_empty, bRd_duties Tb d _ _ (by decide), SparseCore.bigSep_image_of_injOn (fun a _ b _ e => Fin.val_injective e)]
  have hp : ∀ i : Fin τ.nSub, (bRd (U := U) Tb).payload (bcell d (cV L) (jV L)) 0 i.val
      = (shLoc d (cV L) ↦[stripe (Fin.cast nSub_eq i)]{shTok (jV L)} Tx : sProp 𝕄) := fun i => by
    show bPay Tb (bcell d (cV L) (jV L)) 0 i.val = _
    unfold bPay; dsimp only
    rw [dif_pos (show i.val < 16 from i.isLt), hTb]
    rfl
  rw [bigSep_congr fun i _ => hp i]
  show (bigSep (Finset.univ : Finset (Fin 16)) fun i => (shLoc d (cV L) ↦[stripe i]{shTok (jV L)} Tx : sProp 𝕄)) ⊢ shLoc d (cV L) ↦[Finset.univ]{shTok (jV L)} Tx
  rw [← stripes_cover]
  exact Entails.of_eq (pointsTo_biUnion (ℓ := shLoc d (cV L)) (q := shTok (jV L)) (f := Tx) Finset.univ stripe stripes_disjoint).symm

/-! ## What the copies leave -/

/-- The stripe of the shared table after the stage copy holds the table's rows. -/
theorem stripe_copied (Tx fsh : S10000x128.Idx → Elt F .f32) :
    ∀ i ∈ (shStripeK L).view.set,
      (shStripeK L).view.writes (Elt F) fsh [⟨Rect.whole { rank := 2, size := (k0_off2 L).2 }, ReadAs.same.apply ((xStripeK L).view.read (Elt F) Tx)⟩] i = Tx i := by
  intro i hi
  obtain ⟨y, -, rfl⟩ := Finset.mem_map.mp hi
  have h := View.read_writes_cons_emb (Val := Elt F) (shStripeK L).view fsh (Rect.whole { rank := 2, size := (k0_off2 L).2 })
    (ReadAs.same.apply ((xStripeK L).view.read (Elt F) Tx)) [] y
  rw [Rect.emb_whole_apply, View.read_apply, ReadAs.apply_same, View.read_apply] at h
  simp only [cast_eq] at h
  exact h

/-- The index scratch after the copy of row `wid` holds that row. -/
theorem idx_copied (Ix : S32x10496.Idx → Elt F .i32) (f0 : S10496.Idx → Elt F .i32) :
    ∀ i ∈ (Finset.univ : Finset S10496.Idx),
      View.write (Elt F) (ixV).view f0 (ReadAs.same.apply ((iRowK L).view.read (Elt F) Ix)) Finset.univ i = (iRowK L).view.read (Elt F) Ix i := by
  intro i _
  show View.write (Elt F) (View.whole cc0_scratch0) f0 _ Finset.univ i = _
  rw [View.write_whole_univ]

/-- Every window of the index scratch names rows of the table. -/
theorem idx_inb (Ix : S32x10496.Idx → Elt F .i32) (hin : ∀ x, ((iRowK L).view.read (Elt F) Ix x).toNat < 10000)
    (r : Rect S10496) (hr : ∀ a, r.stride a = 1) (x : r.shape.Idx) :
    (((ixV).slice r hr).view.read (Elt F) ((iRowK L).view.read (Elt F) Ix) x).toNat < S10000x128.size (gathers_S10000x128_S128x128).axis := by
  rw [View.read_apply]
  exact hin _

end Body
end Cert.Proof.TileB
end
-- ==== Proof.BodyOwnK.lean ====
/-
  A subcore's own semaphores and buffers, with the ones its task uses picked out.

  The launch hands a vector subcore every semaphore scoped to it at zero and every buffer it owns at some contents.
  The gather-sum task uses six of the semaphores (the two of its scoped regions, the two gather slots and the two
  write-out slots) and three of the buffers (the index, row and result scratches); the rest is carried along.
-/
import proofs.«205366_g3083786518796_cont_9to1_852_38_alg».proof.Proof.BodyDefsK
import proofs.«205366_g3083786518796_cont_9to1_852_38_alg».proof.Proof.BodyLemmasK

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
variable [FloatOps F]
variable {U : Type} [URA U] [CountersIn U]

local notation "𝕄" => MT nD τ sig (HIx 3) (Elt F) ℕ U ℕ

variable (d : Dev nD) (L : grid0.Coords)

theorem cell_mem (sm : DmaSem sig) (h : (SemLoc.dma sm : SemLoc sig).isScoped .scVector = true) :
    cell d L sm ∈ ownCells (V d (cV L) (jV L)) := (mem_ownCells (g := cell d L sm)).mpr ⟨rfl, h⟩

theorem cell_ne {sm sm' : DmaSem sig} (h : sm ≠ sm') : cell d L sm ≠ cell d L sm' :=
  fun e => h (SemLoc.dma.inj (Prod.mk.inj e).2)

/-- The subcore's scoped semaphores at zero: the six its task uses, and the rest. -/
theorem ownSems0_V :
    (ownSems0 (V d (cV L) (jV L)) : sProp 𝕄)
      = iprop(semVal (cell d L cc0_scoped0.sem) 0 ∗ semVal (cell d L cc0_scoped1.sem) 0 ∗ semVal (cell d L g0sem) 0 ∗ semVal (cell d L g1sem) 0
          ∗ semVal (cell d L o0sem) 0 ∗ semVal (cell d L o1sem) 0
          ∗ bigSep (((((((ownCells (V d (cV L) (jV L))).erase (cell d L cc0_scoped0.sem)).erase (cell d L cc0_scoped1.sem)).erase (cell d L g0sem)).erase (cell d L g1sem)).erase
              (cell d L o0sem)).erase (cell d L o1sem)) fun g => semVal g 0) := by
  unfold SparseCore.Cfg.ownSems0
  rw [SparseCore.bigSep_erase' (cell_mem d L cc0_scoped0.sem (by decide)),
    SparseCore.bigSep_erase' (Finset.mem_erase.mpr ⟨cell_ne d L (by decide), cell_mem d L cc0_scoped1.sem (by decide)⟩),
    SparseCore.bigSep_erase' (Finset.mem_erase.mpr ⟨cell_ne d L (by decide), Finset.mem_erase.mpr ⟨cell_ne d L (by decide), cell_mem d L g0sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L g1sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L o0sem (by decide)⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
        Finset.mem_erase.mpr ⟨cell_ne d L (by decide), cell_mem d L o1sem (by decide)⟩⟩⟩⟩⟩)]

theorem scratch_mem (b : Ref sig .scVector) (h : ((Proc.scVector (cV L) (jV L)).devRef b : DevRef τ sig).owner = .proc (Proc.scVector (cV L) (jV L))) :
    (Proc.scVector (cV L) (jV L)).devRef b ∈ ownRefs (τ := τ) (sig := sig) (.scVector (cV L) (jV L)) :=
  SparseCore.Cfg.mem_ownRefs_of_owner h

/-- The subcore's own buffers at some contents: the three scratches its task uses, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  rw [SparseCore.bigSep_erase' (scratch_mem L cc0_scratch0 rfl),
    SparseCore.bigSep_erase' (Finset.mem_erase.mpr ⟨fun e => absurd (Proc.devRef_injective _ e) (show (cc0_scratch1 : Ref sig .scVector) ≠ cc0_scratch0 by decide), scratch_mem L cc0_scratch1 rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide), scratch_mem L cc0_scratch2 rfl⟩⟩)]

end Cert.Proof.TileB

end
-- ==== Proof.BodyCoverK.lean ====
/-
  A worker's output rows as its eighty result chunks.

  Trip t (of forty) and slot b (of two) of subcore L write the four rows 320·w + 8·t + 4·b … + 3 of the padded
  output, w = 2·(L 1) + (L 0) the worker's number.  For a fixed worker these eighty row ranges are pairwise
  disjoint and their union is the worker's 320 rows 320·w … 320·w + 319; so owning the worker's rows outright is
  owning the eighty chunks, and eighty chunks each at some contents join into the rows at some contents.
-/
import proofs.«205366_g3083786518796_cont_9to1_852_38_alg».proof.Proof.BodyDefsK
import proofs.«205366_g3083786518796_cont_9to1_852_38_alg».proof.Proof.BodyLemmasK
import proofs.«205366_g3083786518796_cont_9to1_852_38_alg».proof.Proof.ScPayK

noncomputable section

namespace Cert.Proof.TileB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}
variable [FloatOps F]
variable {U : Type} [URA U] [CountersIn U]

local notation "𝕄" => MT nD τ sig (HIx 3) (Elt F) ℕ U ℕ

/-- The loop runs forty trips. -/
theorem trips_eq : k0_t1_loop.trips = 40 := by decide

theorem oChunkSet_eq (L : grid0.Coords) (t : Fin k0_t1_loop.trips) (b : Fin 2) :
    oChunkSet L t b = (Rect.unit (s := S10240x128) (k0_off20 L t (BitVec.ofNat 32 b.val)) S4x128.size (k0_off20_inb L t b)).set :=
  View.set_slice_whole _ _

/-- A chunk is four whole rows. -/
theorem mem_oChunkSet (L : grid0.Coords) (t : Fin k0_t1_loop.trips) (b : Fin 2) (x : S10240x128.Idx) :
    x ∈ oChunkSet L t b ↔ 640 * (L 1).val + 320 * (L 0).val + 8 * t.val + 4 * b.val ≤ (x 0 : ℕ)
      ∧ (x 0 : ℕ) < 640 * (L 1).val + 320 * (L 0).val + 8 * t.val + 4 * b.val + 4 := by
  rw [oChunkSet_eq, Rect.mem_set_unit, k0_off20_eq]
  constructor
  · intro h; have := h 0; simpa using this
  · intro h a
    match a with
    | 0 => simpa using h
    | 1 => exact ⟨Nat.zero_le _, by simpa using (x 1).isLt⟩

/-- A worker's rows. -/
theorem mem_outRect (w : Fin 32) (x : S10240x128.Idx) :
    x ∈ (Cert.Proof.KB.outRect w).set ↔ 320 * w.val ≤ (x 0 : ℕ) ∧ (x 0 : ℕ) < 320 * w.val + 320 := by
  unfold Cert.Proof.KB.outRect
  rw [Rect.mem_set_unit]
  constructor
  · intro h; have := h 0; simpa using this
  · intro h a
    match a with
    | 0 => simpa using h
    | 1 => exact ⟨Nat.zero_le _, by simpa using (x 1).isLt⟩

theorem oChunks_disjoint (L : grid0.Coords) :
    ∀ tb ∈ (Finset.univ : Finset (Fin k0_t1_loop.trips × Fin 2)), ∀ tb' ∈ (Finset.univ : Finset (Fin k0_t1_loop.trips × Fin 2)),
      tb ≠ tb' → Disjoint (oChunkSet L tb.1 tb.2) (oChunkSet L tb'.1 tb'.2) := by
  rintro ⟨t, b⟩ - ⟨t', b'⟩ - hne
  rw [Finset.disjoint_left]
  intro x h h'
  rw [mem_oChunkSet] at h h'
  have hd : t.val ≠ t'.val ∨ b.val ≠ b'.val := by
    by_contra hh
    have hh' := not_or.mp hh
    exact hne (Prod.ext (Fin.ext (not_not.mp hh'.1)) (Fin.ext (not_not.mp hh'.2)))
  have hb := b.isLt
  have hb' := b'.isLt
  dsimp only at h h'
  omega

theorem oChunks_cover (L : grid0.Coords) (w : Fin 32) (hw : w.val = 2 * (L 1).val + (L 0).val) :
    (Finset.univ : Finset (Fin k0_t1_loop.trips × Fin 2)).biUnion (fun tb => oChunkSet L tb.1 tb.2) = (Cert.Proof.KB.outRect w).set := by
  ext x
  simp only [Finset.mem_biUnion, Finset.mem_univ, true_and]
  rw [mem_outRect]
  constructor
  · rintro ⟨⟨t, b⟩, h⟩
    rw [mem_oChunkSet] at h
    have ht : t.val < 40 := lt_of_lt_of_eq t.isLt trips_eq
    have hb := b.isLt
    dsimp only at h
    omega
  · intro h
    refine ⟨(⟨((x 0 : ℕ) - 320 * w.val) / 8, by rw [trips_eq]; omega⟩, ⟨(((x 0 : ℕ) - 320 * w.val) % 8) / 4, by omega⟩), (mem_oChunkSet _ _ _ _).mpr ?_⟩
    dsimp only
    omega

/-- A worker's rows owned outright are its eighty chunks. -/
theorem oPts_chunks (d : Dev nD) (L : grid0.Coords) (w : Fin 32) (hw : w.val = 2 * (L 1).val + (L 0).val) (f : Buf (Elt F) (oLoc d)) :
    (oLoc d ↦[(Cert.Proof.KB.outRect w).set]{fullShare} f : sProp 𝕄)
      = bigSep Finset.univ fun tb : Fin k0_t1_loop.trips × Fin 2 => oLoc d ↦[oChunkSet L tb.1 tb.2]{fullShare} f := by
  rw [← pointsTo_biUnion Finset.univ (ℓ := oLoc d) (fun tb : Fin k0_t1_loop.trips × Fin 2 => oChunkSet L tb.1 tb.2) (oChunks_disjoint L),
    oChunks_cover L w hw]

/-- Eighty chunks, each at some contents, are the worker's rows at some contents. -/
theorem oChunks_join (d : Dev nD) (L : grid0.Coords) (w : Fin 32) (hw : w.val = 2 * (L 1).val + (L 0).val) :
    (bigSep Finset.univ fun tb : Fin k0_t1_loop.trips × Fin 2 => iprop(∃ f, oLoc d ↦[oChunkSet L tb.1 tb.2]{fullShare} f))
      ⊢ (iprop(∃ f, oLoc d ↦[(Cert.Proof.KB.outRect w).set]{fullShare} f) : sProp 𝕄) := by
  refine (bigSep_exists_pi Finset.univ (fun (tb : Fin k0_t1_loop.trips × Fin 2) (f : Buf (Elt F) (oLoc d)) =>
    (oLoc d ↦[oChunkSet L tb.1 tb.2]{fullShare} f : sProp 𝕄))).trans ?_
  iintro ⟨%fs, H⟩
  ihave H' := (pointsTo_biUnion_join Finset.univ (fun tb : Fin k0_t1_loop.trips × Fin 2 => oChunkSet L tb.1 tb.2) fs
    (fs (⟨0, by rw [trips_eq]; omega⟩, 0)) (oChunks_disjoint L)) $$ H
  icases H' with ⟨%g, -, Hg⟩
  rw [oChunks_cover L w hw]
  iexists g; iexact Hg

end Cert.Proof.TileB

end
-- ==== Proof.BodyDefsC1K.lean ====
/-
  The SparseCore gather-sum kernel, as one vector subcore runs it: what the subcore is handed and what it hands back.

  Worker `wid = 2 s + c` (subcore `s` of SparseCore `c`) copies row `wid` of the index table into its index scratch, copies
  its stripe of the table (rows `624 s … 624 s + n`, `n = 640` for `s = 15` and `624` otherwise) into the SparseCore's shared
  memory, meets the sixteen subcores of its SparseCore at the subcore barrier, and then, forty times for each of two slots,
  gathers 128 rows of the shared table named by the next 128 indices, sums them 32 at a time along a balanced tree and
  copies the four sums out to rows `320 wid + 4 (2 t + b) …` of the result.

  The barrier carries the table: subcore `n`'s duty in subcore `j`'s round hands over the `j`-th read share of stripe `n` of the
  shared memory, holding the table's rows; leaving the barrier a subcore holds one read share of every stripe, that is, of
  the whole shared table, at the table's contents.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's configuration -/

abbrev ΛP : Labels := Pipeline.Sig Λ₀ (Fin 4) fun p => (pcfgs (F := F) p).Adm
abbrev K : SparseCore.Cfg τ sig (ΛP (F := F)) 3 := sc (F := F)
abbrev 𝒱₀ : Variants := Variants.none

theorem nSub_eq : τ.nSub = 16 := rfl
theorem bound_one : grid3.bound 1 = 16 := rfl

/-! ## The resource algebra: any, with the barrier cells' rounds library embedded and the transfers' counters inside -/

abbrev UB : Type := URounds (GSem nD τ sig) ℕ

variable {U : Type} [URA U]

local notation "𝕄" => MT nD τ sig (HIx 3) (Elt F) ℕ U ℕ

/-! ## The arrays -/

abbrev xLoc (d : Dev nD) : Loc nD τ sig := (SparseCore.T d).loc main_v11_0
abbrev iLoc (d : Dev nD) : Loc nD τ sig := (SparseCore.T d).loc main_v7
abbrev oLoc (d : Dev nD) : Loc nD τ sig := (SparseCore.T d).loc main_v12
/-- SparseCore `c`'s shared table, as every subcore of it addresses it. -/
abbrev shRef (c : Fin τ.nSC) : DevRef τ sig := ⟨.shared, ⟨1, by decide⟩, c⟩
abbrev shLoc (d : Dev nD) (c : Fin τ.nSC) : Loc nD τ sig := (d, shRef c)

local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

/-! ## A subcore's place -/

def coordsV (c : Fin (grid3.bound 0)) (s : Fin (grid3.bound 1)) : grid3.Coords :=
  fun | 0 => c | 1 => s | ⟨_ + 2, h⟩ => absurd h (Nat.not_lt.2 (Nat.le_add_left _ _))

abbrev cV (L : grid3.Coords) : Fin τ.nSC := (L 0).castLE hcore3
abbrev jV (L : grid3.Coords) : Fin τ.nSub := (L 1).castLE hsub3
abbrev jL (L : grid3.Coords) : Fin 16 := Fin.cast bound_one (L 1)
/-- The worker's number: `2 s + c`. -/
def wid (L : grid3.Coords) : ℕ := 2 * (L 1).val + (L 0).val

/-! ## The pieces, spelt as the program slices them -/

/-- Row `wid` of the index table. -/
abbrev iRowK (L : grid3.Coords) : Memref sig .scVector .hbm S10496 .i32 :=
  ((iV).slice (Rect.unit (s := S32x10496) (k3_off1 L) S1x10496.size (k3_off1_inb L)) (fun _ => rfl)).squeeze S10496 squeezes_S1x10496_S10496
/-- The subcore's stripe of the table, and of the shared table. -/
abbrev xStripeK (L : grid3.Coords) : Memref sig .scVector .hbm ⟨2, (k3_off2 L).2⟩ .f32 :=
  (xV).slice (Rect.unit (s := S10000x128) (k3_off2 L).1 (k3_off2 L).2 (k3_off2_inb L)) (fun _ => rfl)
abbrev shStripeK (L : grid3.Coords) : Memref sig .scVector .shared ⟨2, (k3_off2 L).2⟩ .f32 :=
  (shV).slice (Rect.unit (s := S10000x128) (k3_off2 L).1 (k3_off2 L).2 (k3_off2_inb L)) (fun _ => rfl)
/-- The shared table whole, as the gathers address it. -/
abbrev shAllK : Memref sig .scVector .shared S10000x128 .f32 :=
  (shV).slice (Rect.unit (s := S10000x128) ![0, 0] S10000x128.size inb_S10000x128_S10000x128_0_0) (fun _ => rfl)
/-- The four result rows of trip `t`, slot `b`: rows `320 wid + 4 (2 t + b) …`. -/
abbrev oChunkK (L : grid3.Coords) (t : Fin k3_t1_loop.trips) (b : Fin 2) : Memref sig .scVector .hbm S4x128 .f32 :=
  (oV).slice (Rect.unit (s := S10240x128) (k3_off20 L t (BitVec.ofNat 32 b.val)) S4x128.size (k3_off20_inb L t b)) (fun _ => rfl)

/-- Stripe `n` of the table (the same on either SparseCore): rows `624 n …`, 640 of them for `n = 15` and 624 otherwise. -/
abbrev stripeRect (L : grid3.Coords) : Rect S10000x128 := Rect.unit (s := S10000x128) (k3_off2 L).1 (k3_off2 L).2 (k3_off2_inb L)
def core0 : Fin (grid3.bound 0) := ⟨0, by decide⟩
def stripe (n : Fin 16) : Finset S10000x128.Idx := ((xV).view.slice (stripeRect (coordsV core0 (Fin.cast bound_one.symm n)))).set
/-- The elements of row `wid` of the index table. -/
abbrev iRowSet (L : grid3.Coords) : Finset S32x10496.Idx := (iRowK L).view.set
/-- The elements of a result chunk. -/
abbrev oChunkSet (L : grid3.Coords) (t : Fin k3_t1_loop.trips) (b : Fin 2) : Finset S10240x128.Idx := (oChunkK L t b).view.set

theorem set_shStripeK (L : grid3.Coords) : (shStripeK L).view.set = stripe (jL L) := rfl
theorem set_xStripeK (L : grid3.Coords) : (xStripeK L).view.set = stripe (jL L) := rfl

/-! ## The barrier cells: the rounds' schedule, carrying the table -/

/-- Subcore `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The read share of the shared table that goes to subcore `j`. -/
abbrev shTok (j : Fin τ.nSub) : PosShare TreeShare := Transfers.shareTok fullShare τ.nSub j
/-- What a stripe's owner keeps of it. -/
abbrev shKeep : PosShare TreeShare := Transfers.shareDrop fullShare τ.nSub

/-- What the duty named `n` in subcore `j`'s round `r` hands over: subcore `j`'s read share of stripe `n` of the shared
    table, holding the table of that round (call `r` of the kernel). -/
def bPay (Tb : ℕ → Dev nD → S10000x128.Idx → Elt F .f32) (g : GSem nD τ sig) (r n : ℕ) : sProp 𝕄 :=
  match g with
  | ((d, .scVector c j), _) => if h : n < 16 then iprop(shLoc d c ↦[stripe ⟨n, h⟩]{shTok j} Tb r d) else iprop(emp)
  | _ => iprop(emp)

/-- The barrier cells' schedule: round `r < 3` (one per call of the kernel) on each, of one unit duty per subcore of the
    SparseCore (named by its number). -/
def bRd (Tb : ℕ → Dev nD → S10000x128.Idx → Elt F .f32) : Rounds.Schedule (GSem nD τ sig) ℕ 𝕄 where
  duties g r := if isBar g ∧ r < 3 then (Finset.univ : Finset (Fin τ.nSub)).image Fin.val else ∅
  amount _ _ _ := 1
  payload g r n := bPay Tb g r n
  amount_pos _ _ _ _ := Nat.one_pos

instance bRd_payload_storable (Tb : ℕ → Dev nD → S10000x128.Idx → Elt F .f32) (g : GSem nD τ sig) (r n : ℕ) :
    BI.Storable (upEmb : UEmb _ 𝕄) ((bRd (U := U) Tb).payload g r n) := by
  show BI.Storable upEmb (bPay Tb g r n)
  unfold bPay
  rcases g with ⟨⟨d, _ | c | ⟨c, i⟩⟩, sm⟩ <;> dsimp only <;> (repeat' split) <;> infer_instance

theorem bRd_duties (Tb : ℕ → Dev nD → S10000x128.Idx → Elt F .f32) (d : Dev nD) (c : Fin τ.nSC) (j : Fin τ.nSub) {r : ℕ} (hr : r < 3) :
    (bRd (U := U) Tb).duties (bcell d c j) r = (Finset.univ : Finset (Fin τ.nSub)).image Fin.val := by
  simp [bRd, isBar, hr]
theorem bRd_mem (Tb : ℕ → Dev nD → S10000x128.Idx → Elt F .f32) (d : Dev nD) (c : Fin τ.nSC) (j i : Fin τ.nSub) {r : ℕ} (hr : r < 3) :
    i.val ∈ (bRd (U := U) Tb).duties (bcell d c j) r := by
  rw [bRd_duties Tb d c j hr]; exact Finset.mem_image_of_mem _ (Finset.mem_univ i)
theorem bRd_expect (Tb : ℕ → Dev nD → S10000x128.Idx → Elt F .f32) (d : Dev nD) (c : Fin τ.nSC) (j : Fin τ.nSub) {r : ℕ} (hr : r < 3) :
    0 + grid3.bound 1 = (bRd (U := U) Tb).expect (bcell d c j) r := by
  unfold Rounds.Schedule.expect; rw [bRd_duties Tb d c j hr]
  show 0 + 16 = ∑ x ∈ (Finset.univ : Finset (Fin 16)).image Fin.val, 1
  rw [Finset.sum_const, Finset.card_image_of_injective _ Fin.val_injective]; rfl

/-- What the launch has a subcore owe for the barrier of call `q`: a unit on every subcore's cell of its SparseCore. -/
def oxV (d : Dev nD) (c : Fin τ.nSC) (q : Fin 3) : CellTallies nD τ sig (HIx 3) :=
  ∑ j : Fin (grid3.bound 1), tallyAt (bcell d c (j.castLE hsub3)) (some q) 1

theorem oxV_none (d : Dev nD) (c : Fin τ.nSC) (q : Fin 3) (g : GSem nD τ sig) : oxV d c q g none = 0 := by
  unfold oxV
  rw [Finset.sum_apply, Finsupp.finsetSum_apply]
  exact Finset.sum_eq_zero fun j _ => by rw [tallyAt_apply, if_neg (fun e => nomatch e.2)]

/-- Subcore `(c, i)`'s barrier kit for round `r` (call `q`): every subcore's cell invariant of its SparseCore and that each has
    reached round `r`, its own position at the origin of round `r`, its duty token in every subcore's round `r`, and the
    credit for the sixteen units of its own round. -/
def bkit (EB : Emb (URounds (GSem nD τ sig) ℕ) (MT nD τ sig (HIx 3) (Elt F) ℕ U ℕ)) (Tb : ℕ → Dev nD → S10000x128.Idx → Elt F .f32) (r : ℕ) (q : Fin 3) (d : Dev nD) (c : Fin τ.nSC) (i : Fin τ.nSub) : sProp 𝕄 :=
  iprop((∃ κ : GSem nD τ sig → ℕ, bigSep Finset.univ fun j : Fin (grid3.bound 1) =>
      cellInv EB (bRd (U := U) Tb) (κ (bcell d c (j.castLE hsub3))) (bcell d c (j.castLE hsub3)))
    ∗ (bigSep Finset.univ fun j : Fin (grid3.bound 1) => dutyTok EB (bcell d c (j.castLE hsub3)) r i.val)
    ∗ (bigSep Finset.univ fun j : Fin (grid3.bound 1) => reached (D := ℕ) EB (bcell d c (j.castLE hsub3)) r)
    ∗ atPos EB (bcell d c i) r (∅ : Finset ℕ) 0
    ∗ cred (tallyAt (bcell d c i) (some q) (grid3.bound 1)))

/-! ## What a subcore is handed, and what it hands back -/

section Tile

variable (d : Dev nD) (L : grid3.Coords)

/-- Handed to subcore `L`: a read share `qx` of the table (contents `Tx`), a share `qi` of row `wid` of the index table
    (contents `Ix`), its eighty result chunks outright (contents `fo`), and its stripe of the shared table outright. -/
def goT (qx qi : PosShare TreeShare) (Tx : S10000x128.Idx → Elt F .f32) (Ix : S32x10496.Idx → Elt F .i32) (fo : S10240x128.Idx → Elt F .f32) : sProp 𝕄 :=
  iprop((xLoc d ↦{qx} Tx) ∗ (iLoc d ↦[iRowSet L]{qi} Ix)
    ∗ (bigSep Finset.univ fun tb : Fin k3_t1_loop.trips × Fin 2 => oLoc d ↦[oChunkSet L tb.1 tb.2]{fullShare} fo)
    ∗ ∃ f, shLoc d (cV L) ↦[stripe (jL L)]{fullShare} f)

/-- Handed back: the same shares of the table and of the index row; the result chunks, written; its read share of the WHOLE
    shared table and what it kept of its own stripe, both holding the table. -/
def tdT (qx qi : PosShare TreeShare) (Tx : S10000x128.Idx → Elt F .f32) (Ix : S32x10496.Idx → Elt F .i32) : sProp 𝕄 :=
  iprop((xLoc d ↦{qx} Tx) ∗ (iLoc d ↦[iRowSet L]{qi} Ix)
    ∗ (bigSep Finset.univ fun tb : Fin k3_t1_loop.trips × Fin 2 => iprop(∃ f, oLoc d ↦[oChunkSet L tb.1 tb.2]{fullShare} f))
    ∗ (shLoc d (cV L) ↦{shTok (jV L)} Tx) ∗ (shLoc d (cV L) ↦[stripe (jL L)]{shKeep} Tx))

end Tile

end Cert.Proof.TileB1

end
-- ==== Proof.BodyLemmasC1K.lean ====
/-
  Geometry and bookkeeping for the gather-sum kernel's subcore body: the arrays as the subcore addresses them, the slots of
  the row and result scratches, the windows of the index scratch; the stripes of the table partition it; what the barrier's
  duties hand over and what a round collects; what the stage copy and the index copy leave; the index windows name rows.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC1K

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

section Body
variable (d : Dev nD) (L : grid3.Coords)

abbrev thr : Thread nD τ := V d (cV L) (jV L)
abbrev g0sem : DmaSem sig := ((cc3_scratch4.slice (Rect.unit (s := S2) ![0] S1.size inb_S2_S1_0)).squeeze S_ squeezes_S1_S_).sem
abbrev g1sem : DmaSem sig := ((cc3_scratch4.slice (Rect.unit (s := S2) ![1] S1.size inb_S2_S1_1)).squeeze S_ squeezes_S1_S_).sem
abbrev o0sem : DmaSem sig := ((cc3_scratch5.slice (Rect.unit (s := S2) ![0] S1.size inb_S2_S1_0)).squeeze S_ squeezes_S1_S_).sem
abbrev o1sem : DmaSem sig := ((cc3_scratch5.slice (Rect.unit (s := S2) ![1] S1.size inb_S2_S1_1)).squeeze S_ squeezes_S1_S_).sem
abbrev cell (sm : DmaSem sig) : GSem nD τ sig := (V d (cV L) (jV L), .dma sm)

theorem pts_x (q : PosShare TreeShare) (f : S10000x128.Idx → Elt F .f32) :
    ((xV).view.loc (V d (cV L) (jV L)) ↦{q} f : sProp 𝕄) = xLoc d ↦{q} f := rfl
theorem pts_iRow (q : PosShare TreeShare) (f : S32x10496.Idx → Elt F .i32) :
    ((iRowK L).view.loc (V d (cV L) (jV L)) ↦[(iRowK L).view.set]{q} f : sProp 𝕄) = iLoc d ↦[iRowSet L]{q} f := rfl
theorem pts_shStripe (q : PosShare TreeShare) (f : S10000x128.Idx → Elt F .f32) :
    ((shStripeK L).view.loc (V d (cV L) (jV L)) ↦[(shStripeK L).view.set]{q} f : sProp 𝕄) = shLoc d (cV L) ↦[stripe (jL L)]{q} f := rfl
theorem pts_oChunk (t : Fin k3_t1_loop.trips) (b : Fin 2) (f : S10240x128.Idx → Elt F .f32) :
    ((oChunkK L t b).view.loc (V d (cV L) (jV L)) ↦[(oChunkK L t b).view.set]{fullShare} f : sProp 𝕄) = oLoc d ↦[oChunkSet L t b]{fullShare} f := rfl

theorem pts_ix (f : Buf (Elt F) ((V d (cV L) (jV L)).loc cc3_scratch0)) :
    ((ixV).view.loc (V d (cV L) (jV L)) ↦{fullShare} f : sProp 𝕄) = (V d (cV L) (jV L)).loc cc3_scratch0 ↦{fullShare} f := rfl
theorem pts_rw (f : Buf (Elt F) ((V d (cV L) (jV L)).loc cc3_scratch1)) :
    ((rwV).view.loc (V d (cV L) (jV L)) ↦{fullShare} f : sProp 𝕄) = (V d (cV L) (jV L)).loc cc3_scratch1 ↦{fullShare} f := rfl
theorem pts_ob (f : Buf (Elt F) ((V d (cV L) (jV L)).loc cc3_scratch2)) :
    ((obV).view.loc (V d (cV L) (jV L)) ↦{fullShare} f : sProp 𝕄) = (V d (cV L) (jV L)).loc cc3_scratch2 ↦{fullShare} f := rfl

abbrev rwK0 : Memref sig .scVector .vmem S128x128 .f32 :=
  ((rwV).slice (Rect.unit (s := S2x128x128) ![0, 0, 0] S1x128x128.size inb_S2x128x128_S1x128x128_0_0_0) (fun _ => rfl)).squeeze S128x128 squeezes_S1x128x128_S128x128
abbrev rwK1 : Memref sig .scVector .vmem S128x128 .f32 :=
  ((rwV).slice (Rect.unit (s := S2x128x128) ![1, 0, 0] S1x128x128.size inb_S2x128x128_S1x128x128_1_0_0) (fun _ => rfl)).squeeze S128x128 squeezes_S1x128x128_S128x128
abbrev obK0 : Memref sig .scVector .vmem S4x128 .f32 :=
  ((obV).slice (Rect.unit (s := S2x4x128) ![0, 0, 0] S1x4x128.size inb_S2x4x128_S1x4x128_0_0_0) (fun _ => rfl)).squeeze S4x128 squeezes_S1x4x128_S4x128
abbrev obK1 : Memref sig .scVector .vmem S4x128 .f32 :=
  ((obV).slice (Rect.unit (s := S2x4x128) ![1, 0, 0] S1x4x128.size inb_S2x4x128_S1x4x128_1_0_0) (fun _ => rfl)).squeeze S4x128 squeezes_S1x4x128_S4x128
/-- The `n`-th window of 128 entries of the index scratch. -/
abbrev ixWinK (n : ℕ) (h : ∀ a, (![128 * n] : Fin 1 → ℕ) a + S128.size a ≤ S10496.size a) : Memref sig .scVector .vmem S128 .i32 :=
  (ixV).slice (Rect.unit (s := S10496) ![128 * n] S128.size h) (fun _ => rfl)

/-! ## The stripes of the table -/

theorem k3_off2_eq : ∀ L : grid3.Coords, k3_off2 L = (![624 * (L 1).val, 0], ![if (L 1).val = 15 then 640 else 624, 128]) := by decide +kernel

theorem stripe_eq_set (n : Fin 16) : stripe n = (stripeRect (coordsV core0 (Fin.cast bound_one.symm n))).set := by
  unfold stripe; exact View.set_slice_whole _ _

theorem mem_stripe (n : Fin 16) (x : S10000x128.Idx) :
    x ∈ stripe n ↔ 624 * n.val ≤ (x 0 : ℕ) ∧ (x 0 : ℕ) < 624 * n.val + (if n.val = 15 then 640 else 624) := by
  have h1 : (coordsV core0 (Fin.cast bound_one.symm n)) 1 = Fin.cast bound_one.symm n := rfl
  rw [stripe_eq_set, stripeRect, Rect.mem_set_unit, k3_off2_eq, h1]
  constructor
  · intro h; have := h 0; simpa using this
  · intro h a
    match a with
    | 0 => simpa using h
    | 1 => exact ⟨Nat.zero_le _, by simpa using (x 1).isLt⟩

theorem stripes_disjoint : ∀ i ∈ (Finset.univ : Finset (Fin 16)), ∀ j ∈ (Finset.univ : Finset (Fin 16)), i ≠ j → Disjoint (stripe i) (stripe j) := by
  intro i _ j _ hij
  rw [Finset.disjoint_left]
  intro x hi hj
  rw [mem_stripe] at hi hj
  have : i.val ≠ j.val := fun h => hij (Fin.ext h)
  have hi' := i.isLt; have hj' := j.isLt
  split_ifs at hi hj <;> omega

theorem stripes_cover : (Finset.univ : Finset (Fin 16)).biUnion stripe = Finset.univ := by
  ext x
  simp only [Finset.mem_biUnion, Finset.mem_univ, true_and, iff_true]
  have hx : (x 0 : ℕ) < 10000 := (x 0).isLt
  by_cases h : (x 0 : ℕ) < 624 * 15
  · refine ⟨⟨(x 0 : ℕ) / 624, by omega⟩, (mem_stripe _ _).mpr ?_⟩
    have : ((x 0 : ℕ) / 624) ≠ 15 := by omega
    simp only [this, if_false]
    omega
  · exact ⟨⟨15, by decide⟩, (mem_stripe _ _).mpr (by simp; omega)⟩

/-! ## The barrier's payloads -/

theorem pays_intro (Tb : ℕ → Dev nD → S10000x128.Idx → Elt F .f32) (Tx : S10000x128.Idx → Elt F .f32) (hTb : Tb 0 d = Tx) :
    iprop(shLoc d (cV L) ↦[stripe (jL L)]{fullShare} Tx)
    ⊢ (iprop((shLoc d (cV L) ↦[stripe (jL L)]{shKeep} Tx)
        ∗ bigSep Finset.univ fun j : Fin (grid3.bound 1) => (bRd (U := U) Tb).payload (bcell d (cV L) (j.castLE hsub3)) 0 (jV L).val) : sProp 𝕄) := by
  have hp : ∀ j : Fin (grid3.bound 1), (bRd (U := U) Tb).payload (bcell d (cV L) (j.castLE hsub3)) 0 (jV L).val
      = (shLoc d (cV L) ↦[stripe (jL L)]{shTok (j.castLE hsub3)} Tx : sProp 𝕄) := fun j => by
    show bPay Tb (bcell d (cV L) (j.castLE hsub3)) 0 (jV L).val = _
    unfold bPay; dsimp only
    rw [dif_pos (show (jV L).val < 16 from (jV L).isLt), hTb]
    rfl
  rw [bigSep_congr fun j _ => hp j]
  exact Transfers.pointsTo_toks_split fullShare τ.nSub

theorem pays_elim (Tb : ℕ → Dev nD → S10000x128.Idx → Elt F .f32) (Tx : S10000x128.Idx → Elt F .f32) (hTb : Tb 0 d = Tx) :
    (bigSep ((bRd (U := U) Tb).duties (bcell d (cV L) (jV L)) 0 \ ∅) fun n => (bRd (U := U) Tb).payload (bcell d (cV L) (jV L)) 0 n)
    ⊢ (iprop(shLoc d (cV L) ↦{shTok (jV L)} Tx) : sProp 𝕄) := by
  rw [Finset.sdiff_empty, bRd_duties Tb d _ _ (by decide), SparseCore.bigSep_image_of_injOn (fun a _ b _ e => Fin.val_injective e)]
  have hp : ∀ i : Fin τ.nSub, (bRd (U := U) Tb).payload (bcell d (cV L) (jV L)) 0 i.val
      = (shLoc d (cV L) ↦[stripe (Fin.cast nSub_eq i)]{shTok (jV L)} Tx : sProp 𝕄) := fun i => by
    show bPay Tb (bcell d (cV L) (jV L)) 0 i.val = _
    unfold bPay; dsimp only
    rw [dif_pos (show i.val < 16 from i.isLt), hTb]
    rfl
  rw [bigSep_congr fun i _ => hp i]
  show (bigSep (Finset.univ : Finset (Fin 16)) fun i => (shLoc d (cV L) ↦[stripe i]{shTok (jV L)} Tx : sProp 𝕄)) ⊢ shLoc d (cV L) ↦[Finset.univ]{shTok (jV L)} Tx
  rw [← stripes_cover]
  exact Entails.of_eq (pointsTo_biUnion (ℓ := shLoc d (cV L)) (q := shTok (jV L)) (f := Tx) Finset.univ stripe stripes_disjoint).symm

/-! ## What the copies leave -/

/-- The stripe of the shared table after the stage copy holds the table's rows. -/
theorem stripe_copied (Tx fsh : S10000x128.Idx → Elt F .f32) :
    ∀ i ∈ (shStripeK L).view.set,
      (shStripeK L).view.writes (Elt F) fsh [⟨Rect.whole { rank := 2, size := (k3_off2 L).2 }, ReadAs.same.apply ((xStripeK L).view.read (Elt F) Tx)⟩] i = Tx i := by
  intro i hi
  obtain ⟨y, -, rfl⟩ := Finset.mem_map.mp hi
  have h := View.read_writes_cons_emb (Val := Elt F) (shStripeK L).view fsh (Rect.whole { rank := 2, size := (k3_off2 L).2 })
    (ReadAs.same.apply ((xStripeK L).view.read (Elt F) Tx)) [] y
  rw [Rect.emb_whole_apply, View.read_apply, ReadAs.apply_same, View.read_apply] at h
  simp only [cast_eq] at h
  exact h

/-- The index scratch after the copy of row `wid` holds that row. -/
theorem idx_copied (Ix : S32x10496.Idx → Elt F .i32) (f0 : S10496.Idx → Elt F .i32) :
    ∀ i ∈ (Finset.univ : Finset S10496.Idx),
      View.write (Elt F) (ixV).view f0 (ReadAs.same.apply ((iRowK L).view.read (Elt F) Ix)) Finset.univ i = (iRowK L).view.read (Elt F) Ix i := by
  intro i _
  show View.write (Elt F) (View.whole cc3_scratch0) f0 _ Finset.univ i = _
  rw [View.write_whole_univ]

/-- Every window of the index scratch names rows of the table. -/
theorem idx_inb (Ix : S32x10496.Idx → Elt F .i32) (hin : ∀ x, ((iRowK L).view.read (Elt F) Ix x).toNat < 10000)
    (r : Rect S10496) (hr : ∀ a, r.stride a = 1) (x : r.shape.Idx) :
    (((ixV).slice r hr).view.read (Elt F) ((iRowK L).view.read (Elt F) Ix) x).toNat < S10000x128.size (gathers_S10000x128_S128x128).axis := by
  rw [View.read_apply]
  exact hin _

end Body
end Cert.Proof.TileB1
end
-- ==== Proof.BodyDefsC2K.lean ====
/-
  The SparseCore gather-sum kernel, as one vector subcore runs it: what the subcore is handed and what it hands back.

  Worker `wid = 2 s + c` (subcore `s` of SparseCore `c`) copies row `wid` of the index table into its index scratch, copies
  its stripe of the table (rows `624 s … 624 s + n`, `n = 640` for `s = 15` and `624` otherwise) into the SparseCore's shared
  memory, meets the sixteen subcores of its SparseCore at the subcore barrier, and then, forty times for each of two slots,
  gathers 128 rows of the shared table named by the next 128 indices, sums them 32 at a time along a balanced tree and
  copies the four sums out to rows `320 wid + 4 (2 t + b) …` of the result.

  The barrier carries the table: subcore `n`'s duty in subcore `j`'s round hands over the `j`-th read share of stripe `n` of the
  shared memory, holding the table's rows; leaving the barrier a subcore holds one read share of every stripe, that is, of
  the whole shared table, at the table's contents.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's configuration -/

abbrev ΛP : Labels := Pipeline.Sig Λ₀ (Fin 4) fun p => (pcfgs (F := F) p).Adm
abbrev K : SparseCore.Cfg τ sig (ΛP (F := F)) 3 := sc (F := F)
abbrev 𝒱₀ : Variants := Variants.none

theorem nSub_eq : τ.nSub = 16 := rfl
theorem bound_one : grid5.bound 1 = 16 := rfl

/-! ## The resource algebra: any, with the barrier cells' rounds library embedded and the transfers' counters inside -/

abbrev UB : Type := URounds (GSem nD τ sig) ℕ

variable {U : Type} [URA U]

local notation "𝕄" => MT nD τ sig (HIx 3) (Elt F) ℕ U ℕ

/-! ## The arrays -/

abbrev xLoc (d : Dev nD) : Loc nD τ sig := (SparseCore.T d).loc main_v14_0
abbrev iLoc (d : Dev nD) : Loc nD τ sig := (SparseCore.T d).loc main_v7
abbrev oLoc (d : Dev nD) : Loc nD τ sig := (SparseCore.T d).loc main_v15
/-- SparseCore `c`'s shared table, as every subcore of it addresses it. -/
abbrev shRef (c : Fin τ.nSC) : DevRef τ sig := ⟨.shared, ⟨2, by decide⟩, c⟩
abbrev shLoc (d : Dev nD) (c : Fin τ.nSC) : Loc nD τ sig := (d, shRef c)

local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

/-! ## A subcore's place -/

def coordsV (c : Fin (grid5.bound 0)) (s : Fin (grid5.bound 1)) : grid5.Coords :=
  fun | 0 => c | 1 => s | ⟨_ + 2, h⟩ => absurd h (Nat.not_lt.2 (Nat.le_add_left _ _))

abbrev cV (L : grid5.Coords) : Fin τ.nSC := (L 0).castLE hcore5
abbrev jV (L : grid5.Coords) : Fin τ.nSub := (L 1).castLE hsub5
abbrev jL (L : grid5.Coords) : Fin 16 := Fin.cast bound_one (L 1)
/-- The worker's number: `2 s + c`. -/
def wid (L : grid5.Coords) : ℕ := 2 * (L 1).val + (L 0).val

/-! ## The pieces, spelt as the program slices them -/

/-- Row `wid` of the index table. -/
abbrev iRowK (L : grid5.Coords) : Memref sig .scVector .hbm S10496 .i32 :=
  ((iV).slice (Rect.unit (s := S32x10496) (k5_off1 L) S1x10496.size (k5_off1_inb L)) (fun _ => rfl)).squeeze S10496 squeezes_S1x10496_S10496
/-- The subcore's stripe of the table, and of the shared table. -/
abbrev xStripeK (L : grid5.Coords) : Memref sig .scVector .hbm ⟨2, (k5_off2 L).2⟩ .f32 :=
  (xV).slice (Rect.unit (s := S10000x128) (k5_off2 L).1 (k5_off2 L).2 (k5_off2_inb L)) (fun _ => rfl)
abbrev shStripeK (L : grid5.Coords) : Memref sig .scVector .shared ⟨2, (k5_off2 L).2⟩ .f32 :=
  (shV).slice (Rect.unit (s := S10000x128) (k5_off2 L).1 (k5_off2 L).2 (k5_off2_inb L)) (fun _ => rfl)
/-- The shared table whole, as the gathers address it. -/
abbrev shAllK : Memref sig .scVector .shared S10000x128 .f32 :=
  (shV).slice (Rect.unit (s := S10000x128) ![0, 0] S10000x128.size inb_S10000x128_S10000x128_0_0) (fun _ => rfl)
/-- The four result rows of trip `t`, slot `b`: rows `320 wid + 4 (2 t + b) …`. -/
abbrev oChunkK (L : grid5.Coords) (t : Fin k5_t1_loop.trips) (b : Fin 2) : Memref sig .scVector .hbm S4x128 .f32 :=
  (oV).slice (Rect.unit (s := S10240x128) (k5_off20 L t (BitVec.ofNat 32 b.val)) S4x128.size (k5_off20_inb L t b)) (fun _ => rfl)

/-- Stripe `n` of the table (the same on either SparseCore): rows `624 n …`, 640 of them for `n = 15` and 624 otherwise. -/
abbrev stripeRect (L : grid5.Coords) : Rect S10000x128 := Rect.unit (s := S10000x128) (k5_off2 L).1 (k5_off2 L).2 (k5_off2_inb L)
def core0 : Fin (grid5.bound 0) := ⟨0, by decide⟩
def stripe (n : Fin 16) : Finset S10000x128.Idx := ((xV).view.slice (stripeRect (coordsV core0 (Fin.cast bound_one.symm n)))).set
/-- The elements of row `wid` of the index table. -/
abbrev iRowSet (L : grid5.Coords) : Finset S32x10496.Idx := (iRowK L).view.set
/-- The elements of a result chunk. -/
abbrev oChunkSet (L : grid5.Coords) (t : Fin k5_t1_loop.trips) (b : Fin 2) : Finset S10240x128.Idx := (oChunkK L t b).view.set

theorem set_shStripeK (L : grid5.Coords) : (shStripeK L).view.set = stripe (jL L) := rfl
theorem set_xStripeK (L : grid5.Coords) : (xStripeK L).view.set = stripe (jL L) := rfl

/-! ## The barrier cells: the rounds' schedule, carrying the table -/

/-- Subcore `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The read share of the shared table that goes to subcore `j`. -/
abbrev shTok (j : Fin τ.nSub) : PosShare TreeShare := Transfers.shareTok fullShare τ.nSub j
/-- What a stripe's owner keeps of it. -/
abbrev shKeep : PosShare TreeShare := Transfers.shareDrop fullShare τ.nSub

/-- What the duty named `n` in subcore `j`'s round `r` hands over: subcore `j`'s read share of stripe `n` of the shared
    table, holding the table of that round (call `r` of the kernel). -/
def bPay (Tb : ℕ → Dev nD → S10000x128.Idx → Elt F .f32) (g : GSem nD τ sig) (r n : ℕ) : sProp 𝕄 :=
  match g with
  | ((d, .scVector c j), _) => if h : n < 16 then iprop(shLoc d c ↦[stripe ⟨n, h⟩]{shTok j} Tb r d) else iprop(emp)
  | _ => iprop(emp)

/-- The barrier cells' schedule: round `r < 3` (one per call of the kernel) on each, of one unit duty per subcore of the
    SparseCore (named by its number). -/
def bRd (Tb : ℕ → Dev nD → S10000x128.Idx → Elt F .f32) : Rounds.Schedule (GSem nD τ sig) ℕ 𝕄 where
  duties g r := if isBar g ∧ r < 3 then (Finset.univ : Finset (Fin τ.nSub)).image Fin.val else ∅
  amount _ _ _ := 1
  payload g r n := bPay Tb g r n
  amount_pos _ _ _ _ := Nat.one_pos

instance bRd_payload_storable (Tb : ℕ → Dev nD → S10000x128.Idx → Elt F .f32) (g : GSem nD τ sig) (r n : ℕ) :
    BI.Storable (upEmb : UEmb _ 𝕄) ((bRd (U := U) Tb).payload g r n) := by
  show BI.Storable upEmb (bPay Tb g r n)
  unfold bPay
  rcases g with ⟨⟨d, _ | c | ⟨c, i⟩⟩, sm⟩ <;> dsimp only <;> (repeat' split) <;> infer_instance

theorem bRd_duties (Tb : ℕ → Dev nD → S10000x128.Idx → Elt F .f32) (d : Dev nD) (c : Fin τ.nSC) (j : Fin τ.nSub) {r : ℕ} (hr : r < 3) :
    (bRd (U := U) Tb).duties (bcell d c j) r = (Finset.univ : Finset (Fin τ.nSub)).image Fin.val := by
  simp [bRd, isBar, hr]
theorem bRd_mem (Tb : ℕ → Dev nD → S10000x128.Idx → Elt F .f32) (d : Dev nD) (c : Fin τ.nSC) (j i : Fin τ.nSub) {r : ℕ} (hr : r < 3) :
    i.val ∈ (bRd (U := U) Tb).duties (bcell d c j) r := by
  rw [bRd_duties Tb d c j hr]; exact Finset.mem_image_of_mem _ (Finset.mem_univ i)
theorem bRd_expect (Tb : ℕ → Dev nD → S10000x128.Idx → Elt F .f32) (d : Dev nD) (c : Fin τ.nSC) (j : Fin τ.nSub) {r : ℕ} (hr : r < 3) :
    0 + grid5.bound 1 = (bRd (U := U) Tb).expect (bcell d c j) r := by
  unfold Rounds.Schedule.expect; rw [bRd_duties Tb d c j hr]
  show 0 + 16 = ∑ x ∈ (Finset.univ : Finset (Fin 16)).image Fin.val, 1
  rw [Finset.sum_const, Finset.card_image_of_injective _ Fin.val_injective]; rfl

/-- What the launch has a subcore owe for the barrier of call `q`: a unit on every subcore's cell of its SparseCore. -/
def oxV (d : Dev nD) (c : Fin τ.nSC) (q : Fin 3) : CellTallies nD τ sig (HIx 3) :=
  ∑ j : Fin (grid5.bound 1), tallyAt (bcell d c (j.castLE hsub5)) (some q) 1

theorem oxV_none (d : Dev nD) (c : Fin τ.nSC) (q : Fin 3) (g : GSem nD τ sig) : oxV d c q g none = 0 := by
  unfold oxV
  rw [Finset.sum_apply, Finsupp.finsetSum_apply]
  exact Finset.sum_eq_zero fun j _ => by rw [tallyAt_apply, if_neg (fun e => nomatch e.2)]

/-- Subcore `(c, i)`'s barrier kit for round `r` (call `q`): every subcore's cell invariant of its SparseCore and that each has
    reached round `r`, its own position at the origin of round `r`, its duty token in every subcore's round `r`, and the
    credit for the sixteen units of its own round. -/
def bkit (EB : Emb (URounds (GSem nD τ sig) ℕ) (MT nD τ sig (HIx 3) (Elt F) ℕ U ℕ)) (Tb : ℕ → Dev nD → S10000x128.Idx → Elt F .f32) (r : ℕ) (q : Fin 3) (d : Dev nD) (c : Fin τ.nSC) (i : Fin τ.nSub) : sProp 𝕄 :=
  iprop((∃ κ : GSem nD τ sig → ℕ, bigSep Finset.univ fun j : Fin (grid5.bound 1) =>
      cellInv EB (bRd (U := U) Tb) (κ (bcell d c (j.castLE hsub5))) (bcell d c (j.castLE hsub5)))
    ∗ (bigSep Finset.univ fun j : Fin (grid5.bound 1) => dutyTok EB (bcell d c (j.castLE hsub5)) r i.val)
    ∗ (bigSep Finset.univ fun j : Fin (grid5.bound 1) => reached (D := ℕ) EB (bcell d c (j.castLE hsub5)) r)
    ∗ atPos EB (bcell d c i) r (∅ : Finset ℕ) 0
    ∗ cred (tallyAt (bcell d c i) (some q) (grid5.bound 1)))

/-! ## What a subcore is handed, and what it hands back -/

section Tile

variable (d : Dev nD) (L : grid5.Coords)

/-- Handed to subcore `L`: a read share `qx` of the table (contents `Tx`), a share `qi` of row `wid` of the index table
    (contents `Ix`), its eighty result chunks outright (contents `fo`), and its stripe of the shared table outright. -/
def goT (qx qi : PosShare TreeShare) (Tx : S10000x128.Idx → Elt F .f32) (Ix : S32x10496.Idx → Elt F .i32) (fo : S10240x128.Idx → Elt F .f32) : sProp 𝕄 :=
  iprop((xLoc d ↦{qx} Tx) ∗ (iLoc d ↦[iRowSet L]{qi} Ix)
    ∗ (bigSep Finset.univ fun tb : Fin k5_t1_loop.trips × Fin 2 => oLoc d ↦[oChunkSet L tb.1 tb.2]{fullShare} fo)
    ∗ ∃ f, shLoc d (cV L) ↦[stripe (jL L)]{fullShare} f)

/-- Handed back: the same shares of the table and of the index row; the result chunks, written; its read share of the WHOLE
    shared table and what it kept of its own stripe, both holding the table. -/
def tdT (qx qi : PosShare TreeShare) (Tx : S10000x128.Idx → Elt F .f32) (Ix : S32x10496.Idx → Elt F .i32) : sProp 𝕄 :=
  iprop((xLoc d ↦{qx} Tx) ∗ (iLoc d ↦[iRowSet L]{qi} Ix)
    ∗ (bigSep Finset.univ fun tb : Fin k5_t1_loop.trips × Fin 2 => iprop(∃ f, oLoc d ↦[oChunkSet L tb.1 tb.2]{fullShare} f))
    ∗ (shLoc d (cV L) ↦{shTok (jV L)} Tx) ∗ (shLoc d (cV L) ↦[stripe (jL L)]{shKeep} Tx))

end Tile

end Cert.Proof.TileB2

end
-- ==== Proof.BodyLemmasC2K.lean ====
/-
  Geometry and bookkeeping for the gather-sum kernel's subcore body: the arrays as the subcore addresses them, the slots of
  the row and result scratches, the windows of the index scratch; the stripes of the table partition it; what the barrier's
  duties hand over and what a round collects; what the stage copy and the index copy leave; the index windows name rows.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC2K

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

section Body
variable (d : Dev nD) (L : grid5.Coords)

abbrev thr : Thread nD τ := V d (cV L) (jV L)
abbrev g0sem : DmaSem sig := ((cc5_scratch4.slice (Rect.unit (s := S2) ![0] S1.size inb_S2_S1_0)).squeeze S_ squeezes_S1_S_).sem
abbrev g1sem : DmaSem sig := ((cc5_scratch4.slice (Rect.unit (s := S2) ![1] S1.size inb_S2_S1_1)).squeeze S_ squeezes_S1_S_).sem
abbrev o0sem : DmaSem sig := ((cc5_scratch5.slice (Rect.unit (s := S2) ![0] S1.size inb_S2_S1_0)).squeeze S_ squeezes_S1_S_).sem
abbrev o1sem : DmaSem sig := ((cc5_scratch5.slice (Rect.unit (s := S2) ![1] S1.size inb_S2_S1_1)).squeeze S_ squeezes_S1_S_).sem
abbrev cell (sm : DmaSem sig) : GSem nD τ sig := (V d (cV L) (jV L), .dma sm)

theorem pts_x (q : PosShare TreeShare) (f : S10000x128.Idx → Elt F .f32) :
    ((xV).view.loc (V d (cV L) (jV L)) ↦{q} f : sProp 𝕄) = xLoc d ↦{q} f := rfl
theorem pts_iRow (q : PosShare TreeShare) (f : S32x10496.Idx → Elt F .i32) :
    ((iRowK L).view.loc (V d (cV L) (jV L)) ↦[(iRowK L).view.set]{q} f : sProp 𝕄) = iLoc d ↦[iRowSet L]{q} f := rfl
theorem pts_shStripe (q : PosShare TreeShare) (f : S10000x128.Idx → Elt F .f32) :
    ((shStripeK L).view.loc (V d (cV L) (jV L)) ↦[(shStripeK L).view.set]{q} f : sProp 𝕄) = shLoc d (cV L) ↦[stripe (jL L)]{q} f := rfl
theorem pts_oChunk (t : Fin k5_t1_loop.trips) (b : Fin 2) (f : S10240x128.Idx → Elt F .f32) :
    ((oChunkK L t b).view.loc (V d (cV L) (jV L)) ↦[(oChunkK L t b).view.set]{fullShare} f : sProp 𝕄) = oLoc d ↦[oChunkSet L t b]{fullShare} f := rfl

theorem pts_ix (f : Buf (Elt F) ((V d (cV L) (jV L)).loc cc5_scratch0)) :
    ((ixV).view.loc (V d (cV L) (jV L)) ↦{fullShare} f : sProp 𝕄) = (V d (cV L) (jV L)).loc cc5_scratch0 ↦{fullShare} f := rfl
theorem pts_rw (f : Buf (Elt F) ((V d (cV L) (jV L)).loc cc5_scratch1)) :
    ((rwV).view.loc (V d (cV L) (jV L)) ↦{fullShare} f : sProp 𝕄) = (V d (cV L) (jV L)).loc cc5_scratch1 ↦{fullShare} f := rfl
theorem pts_ob (f : Buf (Elt F) ((V d (cV L) (jV L)).loc cc5_scratch2)) :
    ((obV).view.loc (V d (cV L) (jV L)) ↦{fullShare} f : sProp 𝕄) = (V d (cV L) (jV L)).loc cc5_scratch2 ↦{fullShare} f := rfl

abbrev rwK0 : Memref sig .scVector .vmem S128x128 .f32 :=
  ((rwV).slice (Rect.unit (s := S2x128x128) ![0, 0, 0] S1x128x128.size inb_S2x128x128_S1x128x128_0_0_0) (fun _ => rfl)).squeeze S128x128 squeezes_S1x128x128_S128x128
abbrev rwK1 : Memref sig .scVector .vmem S128x128 .f32 :=
  ((rwV).slice (Rect.unit (s := S2x128x128) ![1, 0, 0] S1x128x128.size inb_S2x128x128_S1x128x128_1_0_0) (fun _ => rfl)).squeeze S128x128 squeezes_S1x128x128_S128x128
abbrev obK0 : Memref sig .scVector .vmem S4x128 .f32 :=
  ((obV).slice (Rect.unit (s := S2x4x128) ![0, 0, 0] S1x4x128.size inb_S2x4x128_S1x4x128_0_0_0) (fun _ => rfl)).squeeze S4x128 squeezes_S1x4x128_S4x128
abbrev obK1 : Memref sig .scVector .vmem S4x128 .f32 :=
  ((obV).slice (Rect.unit (s := S2x4x128) ![1, 0, 0] S1x4x128.size inb_S2x4x128_S1x4x128_1_0_0) (fun _ => rfl)).squeeze S4x128 squeezes_S1x4x128_S4x128
/-- The `n`-th window of 128 entries of the index scratch. -/
abbrev ixWinK (n : ℕ) (h : ∀ a, (![128 * n] : Fin 1 → ℕ) a + S128.size a ≤ S10496.size a) : Memref sig .scVector .vmem S128 .i32 :=
  (ixV).slice (Rect.unit (s := S10496) ![128 * n] S128.size h) (fun _ => rfl)

/-! ## The stripes of the table -/

theorem k5_off2_eq : ∀ L : grid5.Coords, k5_off2 L = (![624 * (L 1).val, 0], ![if (L 1).val = 15 then 640 else 624, 128]) := by decide +kernel

theorem stripe_eq_set (n : Fin 16) : stripe n = (stripeRect (coordsV core0 (Fin.cast bound_one.symm n))).set := by
  unfold stripe; exact View.set_slice_whole _ _

theorem mem_stripe (n : Fin 16) (x : S10000x128.Idx) :
    x ∈ stripe n ↔ 624 * n.val ≤ (x 0 : ℕ) ∧ (x 0 : ℕ) < 624 * n.val + (if n.val = 15 then 640 else 624) := by
  have h1 : (coordsV core0 (Fin.cast bound_one.symm n)) 1 = Fin.cast bound_one.symm n := rfl
  rw [stripe_eq_set, stripeRect, Rect.mem_set_unit, k5_off2_eq, h1]
  constructor
  · intro h; have := h 0; simpa using this
  · intro h a
    match a with
    | 0 => simpa using h
    | 1 => exact ⟨Nat.zero_le _, by simpa using (x 1).isLt⟩

theorem stripes_disjoint : ∀ i ∈ (Finset.univ : Finset (Fin 16)), ∀ j ∈ (Finset.univ : Finset (Fin 16)), i ≠ j → Disjoint (stripe i) (stripe j) := by
  intro i _ j _ hij
  rw [Finset.disjoint_left]
  intro x hi hj
  rw [mem_stripe] at hi hj
  have : i.val ≠ j.val := fun h => hij (Fin.ext h)
  have hi' := i.isLt; have hj' := j.isLt
  split_ifs at hi hj <;> omega

theorem stripes_cover : (Finset.univ : Finset (Fin 16)).biUnion stripe = Finset.univ := by
  ext x
  simp only [Finset.mem_biUnion, Finset.mem_univ, true_and, iff_true]
  have hx : (x 0 : ℕ) < 10000 := (x 0).isLt
  by_cases h : (x 0 : ℕ) < 624 * 15
  · refine ⟨⟨(x 0 : ℕ) / 624, by omega⟩, (mem_stripe _ _).mpr ?_⟩
    have : ((x 0 : ℕ) / 624) ≠ 15 := by omega
    simp only [this, if_false]
    omega
  · exact ⟨⟨15, by decide⟩, (mem_stripe _ _).mpr (by simp; omega)⟩

/-! ## The barrier's payloads -/

theorem pays_intro (Tb : ℕ → Dev nD → S10000x128.Idx → Elt F .f32) (Tx : S10000x128.Idx → Elt F .f32) (hTb : Tb 0 d = Tx) :
    iprop(shLoc d (cV L) ↦[stripe (jL L)]{fullShare} Tx)
    ⊢ (iprop((shLoc d (cV L) ↦[stripe (jL L)]{shKeep} Tx)
        ∗ bigSep Finset.univ fun j : Fin (grid5.bound 1) => (bRd (U := U) Tb).payload (bcell d (cV L) (j.castLE hsub5)) 0 (jV L).val) : sProp 𝕄) := by
  have hp : ∀ j : Fin (grid5.bound 1), (bRd (U := U) Tb).payload (bcell d (cV L) (j.castLE hsub5)) 0 (jV L).val
      = (shLoc d (cV L) ↦[stripe (jL L)]{shTok (j.castLE hsub5)} Tx : sProp 𝕄) := fun j => by
    show bPay Tb (bcell d (cV L) (j.castLE hsub5)) 0 (jV L).val = _
    unfold bPay; dsimp only
    rw [dif_pos (show (jV L).val < 16 from (jV L).isLt), hTb]
    rfl
  rw [bigSep_congr fun j _ => hp j]
  exact Transfers.pointsTo_toks_split fullShare τ.nSub

theorem pays_elim (Tb : ℕ → Dev nD → S10000x128.Idx → Elt F .f32) (Tx : S10000x128.Idx → Elt F .f32) (hTb : Tb 0 d = Tx) :
    (bigSep ((bRd (U := U) Tb).duties (bcell d (cV L) (jV L)) 0 \ ∅) fun n => (bRd (U := U) Tb).payload (bcell d (cV L) (jV L)) 0 n)
    ⊢ (iprop(shLoc d (cV L) ↦{shTok (jV L)} Tx) : sProp 𝕄) := by
  rw [Finset.sdiff_empty, bRd_duties Tb d _ _ (by decide), SparseCore.bigSep_image_of_injOn (fun a _ b _ e => Fin.val_injective e)]
  have hp : ∀ i : Fin τ.nSub, (bRd (U := U) Tb).payload (bcell d (cV L) (jV L)) 0 i.val
      = (shLoc d (cV L) ↦[stripe (Fin.cast nSub_eq i)]{shTok (jV L)} Tx : sProp 𝕄) := fun i => by
    show bPay Tb (bcell d (cV L) (jV L)) 0 i.val = _
    unfold bPay; dsimp only
    rw [dif_pos (show i.val < 16 from i.isLt), hTb]
    rfl
  rw [bigSep_congr fun i _ => hp i]
  show (bigSep (Finset.univ : Finset (Fin 16)) fun i => (shLoc d (cV L) ↦[stripe i]{shTok (jV L)} Tx : sProp 𝕄)) ⊢ shLoc d (cV L) ↦[Finset.univ]{shTok (jV L)} Tx
  rw [← stripes_cover]
  exact Entails.of_eq (pointsTo_biUnion (ℓ := shLoc d (cV L)) (q := shTok (jV L)) (f := Tx) Finset.univ stripe stripes_disjoint).symm

/-! ## What the copies leave -/

/-- The stripe of the shared table after the stage copy holds the table's rows. -/
theorem stripe_copied (Tx fsh : S10000x128.Idx → Elt F .f32) :
    ∀ i ∈ (shStripeK L).view.set,
      (shStripeK L).view.writes (Elt F) fsh [⟨Rect.whole { rank := 2, size := (k5_off2 L).2 }, ReadAs.same.apply ((xStripeK L).view.read (Elt F) Tx)⟩] i = Tx i := by
  intro i hi
  obtain ⟨y, -, rfl⟩ := Finset.mem_map.mp hi
  have h := View.read_writes_cons_emb (Val := Elt F) (shStripeK L).view fsh (Rect.whole { rank := 2, size := (k5_off2 L).2 })
    (ReadAs.same.apply ((xStripeK L).view.read (Elt F) Tx)) [] y
  rw [Rect.emb_whole_apply, View.read_apply, ReadAs.apply_same, View.read_apply] at h
  simp only [cast_eq] at h
  exact h

/-- The index scratch after the copy of row `wid` holds that row. -/
theorem idx_copied (Ix : S32x10496.Idx → Elt F .i32) (f0 : S10496.Idx → Elt F .i32) :
    ∀ i ∈ (Finset.univ : Finset S10496.Idx),
      View.write (Elt F) (ixV).view f0 (ReadAs.same.apply ((iRowK L).view.read (Elt F) Ix)) Finset.univ i = (iRowK L).view.read (Elt F) Ix i := by
  intro i _
  show View.write (Elt F) (View.whole cc5_scratch0) f0 _ Finset.univ i = _
  rw [View.write_whole_univ]

/-- Every window of the index scratch names rows of the table. -/
theorem idx_inb (Ix : S32x10496.Idx → Elt F .i32) (hin : ∀ x, ((iRowK L).view.read (Elt F) Ix x).toNat < 10000)
    (r : Rect S10496) (hr : ∀ a, r.stride a = 1) (x : r.shape.Idx) :
    (((ixV).slice r hr).view.read (Elt F) ((iRowK L).view.read (Elt F) Ix) x).toNat < S10000x128.size (gathers_S10000x128_S128x128).axis := by
  rw [View.read_apply]
  exact hin _

end Body
end Cert.Proof.TileB2
end
-- ==== Proof.ScBarPayK.lean ====
/-
  What the launch's barrier schedule hands a subcore's task, call by call.

  Round q of tile (c, j)'s barrier cell carries, as the duty named n, tile j's read share of the rows tile n stages
  into the call's shared table, at call q's table.  The rows a tile stages (624 of them from row 624·n, the last tile
  640) are the stripe the kernel's own offsets name, so: every sibling names the tile as a duty of the round, each duty
  is one unit, a round expects sixteen units, a tile's staged stripe owned outright splits into what it keeps and what
  its sixteen duties hand over, and what a tile's own round collects is its read share of the whole shared table.
-/
import proofs.«205366_g3083786518796_cont_9to1_852_38_alg».proof.Proof.ScPayK
import proofs.«205366_g3083786518796_cont_9to1_852_38_alg».proof.Proof.BodyLemmasK
import proofs.«205366_g3083786518796_cont_9to1_852_38_alg».proof.Proof.BodyLemmasC1K
import proofs.«205366_g3083786518796_cont_9to1_852_38_alg».proof.Proof.BodyLemmasC2K

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

variable (Tb : Fin 3 → Dev nD → S10000x128.Idx → F .f32)

/-! ## Call 0: round 0 of the barrier cells, over the call's own shared table -/

section Call0

/-- The rows a subcore stages are the stripe the kernel's offsets name. -/
theorem stripe0_eq (n : Fin 16) : Cert.Proof.TileB.stripe n = (stageRect n).set := by
  ext x
  rw [Cert.Proof.TileB.mem_stripe, stageRect, Rect.mem_set_unit]
  unfold nStage
  constructor
  · intro h a
    match a with
    | 0 => simpa using h
    | 1 => exact ⟨Nat.zero_le _, by simpa using (x 1).isLt⟩
  · intro h; have := h 0; simpa using this

variable (d : Dev nD) (L : grid0.Coords)

theorem bar0_mem (j : Fin (grid0.bound 1)) : (Cert.Proof.TileB.jV L).val ∈ (bRd (F := F) Tb).duties (bcell d (Cert.Proof.TileB.cV L) (j.castLE hsub0)) 0 := by
  show (Cert.Proof.TileB.jV L).val ∈ (if isBar (bcell d (Cert.Proof.TileB.cV L) (j.castLE hsub0)) ∧ 0 < 3 then (Finset.univ : Finset (Fin τ.nSub)).image Fin.val else ∅)
  rw [if_pos ⟨isBar_bcell _ _ _, by decide⟩]
  exact Finset.mem_image_of_mem _ (Finset.mem_univ _)

theorem bar0_amt (j : Fin (grid0.bound 1)) : (bRd (F := F) Tb).amount (bcell d (Cert.Proof.TileB.cV L) (j.castLE hsub0)) 0 (Cert.Proof.TileB.jV L).val = 1 := rfl

theorem bar0_duties (c : Fin τ.nSC) (j : Fin τ.nSub) :
    (bRd (F := F) Tb).duties (bcell d c j) 0 = (Finset.univ : Finset (Fin τ.nSub)).image Fin.val := by
  show (if isBar (bcell d c j) ∧ 0 < 3 then (Finset.univ : Finset (Fin τ.nSub)).image Fin.val else ∅) = _
  rw [if_pos ⟨isBar_bcell _ _ _, by decide⟩]

theorem bar0_expect : 0 + grid0.bound 1 = (bRd (F := F) Tb).expect (bcell d (Cert.Proof.TileB.cV L) (Cert.Proof.TileB.jV L)) 0 := by
  unfold Rounds.Schedule.expect; rw [bar0_duties Tb d]
  show 0 + 16 = ∑ x ∈ (Finset.univ : Finset (Fin 16)).image Fin.val, 1
  rw [Finset.sum_const, Finset.card_image_of_injective _ Fin.val_injective]; rfl

/-- A subcore's staged stripe, owned outright at the table's rows, is what it keeps and what its sixteen duties of the
    round hand over. -/
theorem bar0_pays_intro (Tx : S10000x128.Idx → F .f32) (hTb : Tb 0 d = Tx) :
    iprop(Cert.Proof.TileB.shLoc d (Cert.Proof.TileB.cV L) ↦[Cert.Proof.TileB.stripe (Cert.Proof.TileB.jL L)]{fullShare} Tx)
    ⊢ (iprop((Cert.Proof.TileB.shLoc d (Cert.Proof.TileB.cV L) ↦[Cert.Proof.TileB.stripe (Cert.Proof.TileB.jL L)]{Cert.Proof.TileB.shKeep} Tx)
        ∗ bigSep Finset.univ fun j : Fin (grid0.bound 1) => (bRd (F := F) Tb).payload (bcell d (Cert.Proof.TileB.cV L) (j.castLE hsub0)) 0 (Cert.Proof.TileB.jV L).val) : sProp 𝕄) := by
  have hp : ∀ j : Fin (grid0.bound 1), (bRd (F := F) Tb).payload (bcell d (Cert.Proof.TileB.cV L) (j.castLE hsub0)) 0 (Cert.Proof.TileB.jV L).val
      = (Cert.Proof.TileB.shLoc d (Cert.Proof.TileB.cV L) ↦[Cert.Proof.TileB.stripe (Cert.Proof.TileB.jL L)]{Cert.Proof.TileB.shTok (j.castLE hsub0)} Tx : sProp 𝕄) := fun j => by
    show barPay (sh0 d) (fun _ n => (stageRect n).set) (wrS0 d) (Tb 0 d) (Cert.Proof.TileB.cV L) (j.castLE hsub0) (Cert.Proof.TileB.jV L).val = _
    unfold barPay
    rw [dif_pos (show (Cert.Proof.TileB.jV L).val < 16 from (Cert.Proof.TileB.jV L).isLt), hTb, stripe0_eq]
    rfl
  rw [bigSep_congr fun j _ => hp j]
  exact Transfers.pointsTo_toks_split fullShare τ.nSub

/-- What a subcore's own round collects: its read share of the whole shared table, at the table's rows. -/
theorem bar0_pays_elim (Tx : S10000x128.Idx → F .f32) (hTb : Tb 0 d = Tx) :
    (bigSep ((bRd (F := F) Tb).duties (bcell d (Cert.Proof.TileB.cV L) (Cert.Proof.TileB.jV L)) 0 \ ∅) fun n => (bRd (F := F) Tb).payload (bcell d (Cert.Proof.TileB.cV L) (Cert.Proof.TileB.jV L)) 0 n)
    ⊢ (iprop(Cert.Proof.TileB.shLoc d (Cert.Proof.TileB.cV L) ↦{Cert.Proof.TileB.shTok (Cert.Proof.TileB.jV L)} Tx) : sProp 𝕄) := by
  rw [Finset.sdiff_empty, bar0_duties Tb d, SparseCore.bigSep_image_of_injOn (fun a _ b _ e => Fin.val_injective e)]
  have hp : ∀ i : Fin τ.nSub, (bRd (F := F) Tb).payload (bcell d (Cert.Proof.TileB.cV L) (Cert.Proof.TileB.jV L)) 0 i.val
      = (Cert.Proof.TileB.shLoc d (Cert.Proof.TileB.cV L) ↦[Cert.Proof.TileB.stripe (Fin.cast Cert.Proof.TileB.nSub_eq i)]{Cert.Proof.TileB.shTok (Cert.Proof.TileB.jV L)} Tx : sProp 𝕄) := fun i => by
    show barPay (sh0 d) (fun _ n => (stageRect n).set) (wrS0 d) (Tb 0 d) (Cert.Proof.TileB.cV L) (Cert.Proof.TileB.jV L) i.val = _
    unfold barPay
    rw [dif_pos (show i.val < 16 from i.isLt), hTb, stripe0_eq]
    rfl
  rw [bigSep_congr fun i _ => hp i]
  show (bigSep (Finset.univ : Finset (Fin 16)) fun i => (Cert.Proof.TileB.shLoc d (Cert.Proof.TileB.cV L) ↦[Cert.Proof.TileB.stripe i]{Cert.Proof.TileB.shTok (Cert.Proof.TileB.jV L)} Tx : sProp 𝕄))
    ⊢ Cert.Proof.TileB.shLoc d (Cert.Proof.TileB.cV L) ↦[Finset.univ]{Cert.Proof.TileB.shTok (Cert.Proof.TileB.jV L)} Tx
  rw [← Cert.Proof.TileB.stripes_cover, pointsTo_biUnion Finset.univ (ℓ := Cert.Proof.TileB.shLoc d (Cert.Proof.TileB.cV L)) Cert.Proof.TileB.stripe Cert.Proof.TileB.stripes_disjoint]

end Call0

/-! ## Call 1: round 1 of the barrier cells, over the call's own shared table -/

section Call1

/-- The rows a subcore stages are the stripe the kernel's offsets name. -/
theorem stripe1_eq (n : Fin 16) : Cert.Proof.TileB1.stripe n = (stageRect n).set := by
  ext x
  rw [Cert.Proof.TileB1.mem_stripe, stageRect, Rect.mem_set_unit]
  unfold nStage
  constructor
  · intro h a
    match a with
    | 0 => simpa using h
    | 1 => exact ⟨Nat.zero_le _, by simpa using (x 1).isLt⟩
  · intro h; have := h 0; simpa using this

variable (d : Dev nD) (L : grid3.Coords)

theorem bar1_mem (j : Fin (grid3.bound 1)) : (Cert.Proof.TileB1.jV L).val ∈ (bRd (F := F) Tb).duties (bcell d (Cert.Proof.TileB1.cV L) (j.castLE hsub3)) 1 := by
  show (Cert.Proof.TileB1.jV L).val ∈ (if isBar (bcell d (Cert.Proof.TileB1.cV L) (j.castLE hsub3)) ∧ 1 < 3 then (Finset.univ : Finset (Fin τ.nSub)).image Fin.val else ∅)
  rw [if_pos ⟨isBar_bcell _ _ _, by decide⟩]
  exact Finset.mem_image_of_mem _ (Finset.mem_univ _)

theorem bar1_amt (j : Fin (grid3.bound 1)) : (bRd (F := F) Tb).amount (bcell d (Cert.Proof.TileB1.cV L) (j.castLE hsub3)) 1 (Cert.Proof.TileB1.jV L).val = 1 := rfl

theorem bar1_duties (c : Fin τ.nSC) (j : Fin τ.nSub) :
    (bRd (F := F) Tb).duties (bcell d c j) 1 = (Finset.univ : Finset (Fin τ.nSub)).image Fin.val := by
  show (if isBar (bcell d c j) ∧ 1 < 3 then (Finset.univ : Finset (Fin τ.nSub)).image Fin.val else ∅) = _
  rw [if_pos ⟨isBar_bcell _ _ _, by decide⟩]

theorem bar1_expect : 0 + grid3.bound 1 = (bRd (F := F) Tb).expect (bcell d (Cert.Proof.TileB1.cV L) (Cert.Proof.TileB1.jV L)) 1 := by
  unfold Rounds.Schedule.expect; rw [bar1_duties Tb d]
  show 0 + 16 = ∑ x ∈ (Finset.univ : Finset (Fin 16)).image Fin.val, 1
  rw [Finset.sum_const, Finset.card_image_of_injective _ Fin.val_injective]; rfl

/-- A subcore's staged stripe, owned outright at the table's rows, is what it keeps and what its sixteen duties of the
    round hand over. -/
theorem bar1_pays_intro (Tx : S10000x128.Idx → F .f32) (hTb : Tb 1 d = Tx) :
    iprop(Cert.Proof.TileB1.shLoc d (Cert.Proof.TileB1.cV L) ↦[Cert.Proof.TileB1.stripe (Cert.Proof.TileB1.jL L)]{fullShare} Tx)
    ⊢ (iprop((Cert.Proof.TileB1.shLoc d (Cert.Proof.TileB1.cV L) ↦[Cert.Proof.TileB1.stripe (Cert.Proof.TileB1.jL L)]{Cert.Proof.TileB1.shKeep} Tx)
        ∗ bigSep Finset.univ fun j : Fin (grid3.bound 1) => (bRd (F := F) Tb).payload (bcell d (Cert.Proof.TileB1.cV L) (j.castLE hsub3)) 1 (Cert.Proof.TileB1.jV L).val) : sProp 𝕄) := by
  have hp : ∀ j : Fin (grid3.bound 1), (bRd (F := F) Tb).payload (bcell d (Cert.Proof.TileB1.cV L) (j.castLE hsub3)) 1 (Cert.Proof.TileB1.jV L).val
      = (Cert.Proof.TileB1.shLoc d (Cert.Proof.TileB1.cV L) ↦[Cert.Proof.TileB1.stripe (Cert.Proof.TileB1.jL L)]{Cert.Proof.TileB1.shTok (j.castLE hsub3)} Tx : sProp 𝕄) := fun j => by
    show barPay (sh1 d) (fun _ n => (stageRect n).set) (wrS1 d) (Tb 1 d) (Cert.Proof.TileB1.cV L) (j.castLE hsub3) (Cert.Proof.TileB1.jV L).val = _
    unfold barPay
    rw [dif_pos (show (Cert.Proof.TileB1.jV L).val < 16 from (Cert.Proof.TileB1.jV L).isLt), hTb, stripe1_eq]
    rfl
  rw [bigSep_congr fun j _ => hp j]
  exact Transfers.pointsTo_toks_split fullShare τ.nSub

/-- What a subcore's own round collects: its read share of the whole shared table, at the table's rows. -/
theorem bar1_pays_elim (Tx : S10000x128.Idx → F .f32) (hTb : Tb 1 d = Tx) :
    (bigSep ((bRd (F := F) Tb).duties (bcell d (Cert.Proof.TileB1.cV L) (Cert.Proof.TileB1.jV L)) 1 \ ∅) fun n => (bRd (F := F) Tb).payload (bcell d (Cert.Proof.TileB1.cV L) (Cert.Proof.TileB1.jV L)) 1 n)
    ⊢ (iprop(Cert.Proof.TileB1.shLoc d (Cert.Proof.TileB1.cV L) ↦{Cert.Proof.TileB1.shTok (Cert.Proof.TileB1.jV L)} Tx) : sProp 𝕄) := by
  rw [Finset.sdiff_empty, bar1_duties Tb d, SparseCore.bigSep_image_of_injOn (fun a _ b _ e => Fin.val_injective e)]
  have hp : ∀ i : Fin τ.nSub, (bRd (F := F) Tb).payload (bcell d (Cert.Proof.TileB1.cV L) (Cert.Proof.TileB1.jV L)) 1 i.val
      = (Cert.Proof.TileB1.shLoc d (Cert.Proof.TileB1.cV L) ↦[Cert.Proof.TileB1.stripe (Fin.cast Cert.Proof.TileB1.nSub_eq i)]{Cert.Proof.TileB1.shTok (Cert.Proof.TileB1.jV L)} Tx : sProp 𝕄) := fun i => by
    show barPay (sh1 d) (fun _ n => (stageRect n).set) (wrS1 d) (Tb 1 d) (Cert.Proof.TileB1.cV L) (Cert.Proof.TileB1.jV L) i.val = _
    unfold barPay
    rw [dif_pos (show i.val < 16 from i.isLt), hTb, stripe1_eq]
    rfl
  rw [bigSep_congr fun i _ => hp i]
  show (bigSep (Finset.univ : Finset (Fin 16)) fun i => (Cert.Proof.TileB1.shLoc d (Cert.Proof.TileB1.cV L) ↦[Cert.Proof.TileB1.stripe i]{Cert.Proof.TileB1.shTok (Cert.Proof.TileB1.jV L)} Tx : sProp 𝕄))
    ⊢ Cert.Proof.TileB1.shLoc d (Cert.Proof.TileB1.cV L) ↦[Finset.univ]{Cert.Proof.TileB1.shTok (Cert.Proof.TileB1.jV L)} Tx
  rw [← Cert.Proof.TileB1.stripes_cover, pointsTo_biUnion Finset.univ (ℓ := Cert.Proof.TileB1.shLoc d (Cert.Proof.TileB1.cV L)) Cert.Proof.TileB1.stripe Cert.Proof.TileB1.stripes_disjoint]

end Call1

/-! ## Call 2: round 2 of the barrier cells, over the call's own shared table -/

section Call2

/-- The rows a subcore stages are the stripe the kernel's offsets name. -/
theorem stripe2_eq (n : Fin 16) : Cert.Proof.TileB2.stripe n = (stageRect n).set := by
  ext x
  rw [Cert.Proof.TileB2.mem_stripe, stageRect, Rect.mem_set_unit]
  unfold nStage
  constructor
  · intro h a
    match a with
    | 0 => simpa using h
    | 1 => exact ⟨Nat.zero_le _, by simpa using (x 1).isLt⟩
  · intro h; have := h 0; simpa using this

variable (d : Dev nD) (L : grid5.Coords)

theorem bar2_mem (j : Fin (grid5.bound 1)) : (Cert.Proof.TileB2.jV L).val ∈ (bRd (F := F) Tb).duties (bcell d (Cert.Proof.TileB2.cV L) (j.castLE hsub5)) 2 := by
  show (Cert.Proof.TileB2.jV L).val ∈ (if isBar (bcell d (Cert.Proof.TileB2.cV L) (j.castLE hsub5)) ∧ 2 < 3 then (Finset.univ : Finset (Fin τ.nSub)).image Fin.val else ∅)
  rw [if_pos ⟨isBar_bcell _ _ _, by decide⟩]
  exact Finset.mem_image_of_mem _ (Finset.mem_univ _)

theorem bar2_amt (j : Fin (grid5.bound 1)) : (bRd (F := F) Tb).amount (bcell d (Cert.Proof.TileB2.cV L) (j.castLE hsub5)) 2 (Cert.Proof.TileB2.jV L).val = 1 := rfl

theorem bar2_duties (c : Fin τ.nSC) (j : Fin τ.nSub) :
    (bRd (F := F) Tb).duties (bcell d c j) 2 = (Finset.univ : Finset (Fin τ.nSub)).image Fin.val := by
  show (if isBar (bcell d c j) ∧ 2 < 3 then (Finset.univ : Finset (Fin τ.nSub)).image Fin.val else ∅) = _
  rw [if_pos ⟨isBar_bcell _ _ _, by decide⟩]

theorem bar2_expect : 0 + grid5.bound 1 = (bRd (F := F) Tb).expect (bcell d (Cert.Proof.TileB2.cV L) (Cert.Proof.TileB2.jV L)) 2 := by
  unfold Rounds.Schedule.expect; rw [bar2_duties Tb d]
  show 0 + 16 = ∑ x ∈ (Finset.univ : Finset (Fin 16)).image Fin.val, 1
  rw [Finset.sum_const, Finset.card_image_of_injective _ Fin.val_injective]; rfl

/-- A subcore's staged stripe, owned outright at the table's rows, is what it keeps and what its sixteen duties of the
    round hand over. -/
theorem bar2_pays_intro (Tx : S10000x128.Idx → F .f32) (hTb : Tb 2 d = Tx) :
    iprop(Cert.Proof.TileB2.shLoc d (Cert.Proof.TileB2.cV L) ↦[Cert.Proof.TileB2.stripe (Cert.Proof.TileB2.jL L)]{fullShare} Tx)
    ⊢ (iprop((Cert.Proof.TileB2.shLoc d (Cert.Proof.TileB2.cV L) ↦[Cert.Proof.TileB2.stripe (Cert.Proof.TileB2.jL L)]{Cert.Proof.TileB2.shKeep} Tx)
        ∗ bigSep Finset.univ fun j : Fin (grid5.bound 1) => (bRd (F := F) Tb).payload (bcell d (Cert.Proof.TileB2.cV L) (j.castLE hsub5)) 2 (Cert.Proof.TileB2.jV L).val) : sProp 𝕄) := by
  have hp : ∀ j : Fin (grid5.bound 1), (bRd (F := F) Tb).payload (bcell d (Cert.Proof.TileB2.cV L) (j.castLE hsub5)) 2 (Cert.Proof.TileB2.jV L).val
      = (Cert.Proof.TileB2.shLoc d (Cert.Proof.TileB2.cV L) ↦[Cert.Proof.TileB2.stripe (Cert.Proof.TileB2.jL L)]{Cert.Proof.TileB2.shTok (j.castLE hsub5)} Tx : sProp 𝕄) := fun j => by
    show barPay (sh2 d) (fun _ n => (stageRect n).set) (wrS2 d) (Tb 2 d) (Cert.Proof.TileB2.cV L) (j.castLE hsub5) (Cert.Proof.TileB2.jV L).val = _
    unfold barPay
    rw [dif_pos (show (Cert.Proof.TileB2.jV L).val < 16 from (Cert.Proof.TileB2.jV L).isLt), hTb, stripe2_eq]
    rfl
  rw [bigSep_congr fun j _ => hp j]
  exact Transfers.pointsTo_toks_split fullShare τ.nSub

/-- What a subcore's own round collects: its read share of the whole shared table, at the table's rows. -/
theorem bar2_pays_elim (Tx : S10000x128.Idx → F .f32) (hTb : Tb 2 d = Tx) :
    (bigSep ((bRd (F := F) Tb).duties (bcell d (Cert.Proof.TileB2.cV L) (Cert.Proof.TileB2.jV L)) 2 \ ∅) fun n => (bRd (F := F) Tb).payload (bcell d (Cert.Proof.TileB2.cV L) (Cert.Proof.TileB2.jV L)) 2 n)
    ⊢ (iprop(Cert.Proof.TileB2.shLoc d (Cert.Proof.TileB2.cV L) ↦{Cert.Proof.TileB2.shTok (Cert.Proof.TileB2.jV L)} Tx) : sProp 𝕄) := by
  rw [Finset.sdiff_empty, bar2_duties Tb d, SparseCore.bigSep_image_of_injOn (fun a _ b _ e => Fin.val_injective e)]
  have hp : ∀ i : Fin τ.nSub, (bRd (F := F) Tb).payload (bcell d (Cert.Proof.TileB2.cV L) (Cert.Proof.TileB2.jV L)) 2 i.val
      = (Cert.Proof.TileB2.shLoc d (Cert.Proof.TileB2.cV L) ↦[Cert.Proof.TileB2.stripe (Fin.cast Cert.Proof.TileB2.nSub_eq i)]{Cert.Proof.TileB2.shTok (Cert.Proof.TileB2.jV L)} Tx : sProp 𝕄) := fun i => by
    show barPay (sh2 d) (fun _ n => (stageRect n).set) (wrS2 d) (Tb 2 d) (Cert.Proof.TileB2.cV L) (Cert.Proof.TileB2.jV L) i.val = _
    unfold barPay
    rw [dif_pos (show i.val < 16 from i.isLt), hTb, stripe2_eq]
    rfl
  rw [bigSep_congr fun i _ => hp i]
  show (bigSep (Finset.univ : Finset (Fin 16)) fun i => (Cert.Proof.TileB2.shLoc d (Cert.Proof.TileB2.cV L) ↦[Cert.Proof.TileB2.stripe i]{Cert.Proof.TileB2.shTok (Cert.Proof.TileB2.jV L)} Tx : sProp 𝕄))
    ⊢ Cert.Proof.TileB2.shLoc d (Cert.Proof.TileB2.cV L) ↦[Finset.univ]{Cert.Proof.TileB2.shTok (Cert.Proof.TileB2.jV L)} Tx
  rw [← Cert.Proof.TileB2.stripes_cover, pointsTo_biUnion Finset.univ (ℓ := Cert.Proof.TileB2.shLoc d (Cert.Proof.TileB2.cV L)) Cert.Proof.TileB2.stripe Cert.Proof.TileB2.stripes_disjoint]

end Call2

end Cert.Proof.KB

end
-- ==== Proof.ScTilePartsK.lean ====
/-
  The parts of a vector subcore's task obligation that do not depend on the kernel's body: the reduction of the launch's
  obligation to a statement about the body on one subcore; the tile's scoped storage split into what the task uses and
  the rest; the launch's barrier kit in the body's indexing; the task's operands cut the way the body takes them (the
  index table's row out of the whole table, the output rows as the eighty chunks, the staged rows as the stripe) and
  the results put back.
-/
import proofs.«205366_g3083786518796_cont_9to1_852_38_alg».proof.Proof.ScPayK
import proofs.«205366_g3083786518796_cont_9to1_852_38_alg».proof.Proof.BodyDefsK
import proofs.«205366_g3083786518796_cont_9to1_852_38_alg».proof.Proof.BodyLemmasK
import proofs.«205366_g3083786518796_cont_9to1_852_38_alg».proof.Proof.BodyOwnK
import proofs.«205366_g3083786518796_cont_9to1_852_38_alg».proof.Proof.BodyCoverK
import proofs.«205366_g3083786518796_cont_9to1_852_38_alg».proof.Proof.ScBarPayK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-! ## Call 0 -/

/-- The subcore's coordinates as the launch payloads index them. -/
abbrev cL0 (L : grid0.Coords) : Fin 2 := Fin.cast (by decide) (L 0)
abbrev jL0 (L : grid0.Coords) : Fin 16 := Fin.cast (by decide) (L 1)

theorem defs₀_vector0 (c : Fin τ.nSC) (s : Fin τ.nSub) :
    defs₀ (F := F) (.scVector c s) 0 ()
      = SparseCore.onTile hcore0 hsub0 (fun c s => cc0__sc_gather_sum (Cert.Proof.TileB.coordsV c s)
          (Memref.whole main_arg0_scv) (Memref.isWhole_whole _) (Memref.whole main_v7_scv) (Memref.isWhole_whole _)
          (Memref.whole main_v8_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scoped0 cc0_scoped1) ⟨⟩ c s := rfl

/-- THE BODY'S STATEMENT for call 0, over the launch's payloads: the kernel on vector subcore `L`, from its barrier kit, its
    task's operands, its scoped storage and what it owes, to the task's results. -/
def BodySpec0 : Prop :=
  ∀ (d : Dev nD) (L : grid0.Coords) (O : CellTallies nD τ sig (HIx 3)) (W : Waits sig (HIx 3)), (∀ g, O g none = 0) →
    (∀ g ι, 0 < O g ι → 8 * (0 : Fin 3).val + 6 ≤ (K (F := F)).lev g ι) →
    iprop(levAts (K (F := F)).L (K (F := F)).lev ∗ bkit (F := F) Tb 0 d (Cert.Proof.TileB.cV L) (Cert.Proof.TileB.jV L)
        ∗ goQ Tb Ib 0 d (cL0 L) (jL0 L)
        ∗ scopedBufs (V d (Cert.Proof.TileB.cV L) (Cert.Proof.TileB.jV L)) ∗ scopedSems0 (V d (Cert.Proof.TileB.cV L) (Cert.Proof.TileB.jV L))
        ∗ owes (V d (Cert.Proof.TileB.cV L) (Cert.Proof.TileB.jV L)) (O + oxV 0 d (Cert.Proof.TileB.cV L)) W)
      ⊢ wp frame (wpE (defs₀ (F := F)) 𝒱₀ (V d (Cert.Proof.TileB.cV L) (Cert.Proof.TileB.jV L)) none) Set.univ
          (cc0__sc_gather_sum L (Memref.whole main_arg0_scv) (Memref.isWhole_whole _) (Memref.whole main_v7_scv) (Memref.isWhole_whole _)
            (Memref.whole main_v8_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scoped0 cc0_scoped1)
          fun _ => iprop(tdQ Tb Ib 0 d (cL0 L) (jL0 L)
            ∗ scopedBufs (V d (Cert.Proof.TileB.cV L) (Cert.Proof.TileB.jV L)) ∗ scopedSems0 (V d (Cert.Proof.TileB.cV L) (Cert.Proof.TileB.jV L))
            ∗ ∃ W', ⌜∀ p ∈ W', p ∈ W ∨ p.2 = none ∨ p.2 = some (0 : Fin 3)⌝ ∗ owes (V d (Cert.Proof.TileB.cV L) (Cert.Proof.TileB.jV L)) O W')

set_option maxRecDepth 16384 in
/-- The launch's obligation for call 0 from the body's statement. -/
theorem tileObl0_of_body (hbody : BodySpec0 (F := F) Tb Ib) : (K (F := F)).TileObl (D (F := F)) 𝒱 (P (F := F) Tb Ib) v₀ 0 := by
  intro d c i O W hO hOlev _
  have hci : ((K (F := F)).core 0 c).val < grid0.bound 0 ∧ ((K (F := F)).sub 0 i).val < grid0.bound 1 := ⟨c.isLt, i.isLt⟩
  rw [show (P (F := F) Tb Ib).ox 0 (V d ((K (F := F)).core 0 c) ((K (F := F)).sub 0 i)) = oxV 0 d ((K (F := F)).core 0 c) from rfl,
    show (P (F := F) Tb Ib).x 0 (V d ((K (F := F)).core 0 c) ((K (F := F)).sub 0 i)) = bkit (F := F) Tb 0 d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact hbody d (Cert.Proof.TileB.coordsV ⟨_, hci.1⟩ ⟨_, hci.2⟩) O W hO hOlev

/-! ## The scoped storage: the three scratches and six semaphores the task uses, and the rest -/

/-- A vector subcore's scoped buffers and semaphores, as the launch hands them: the task's three scratches at some
    contents, its six semaphores at zero, and the rest of each. -/
theorem scoped_split (d : Dev nD) (L : grid0.Coords) :
    (iprop(scopedBufs (V d (Cert.Proof.TileB.cV L) (Cert.Proof.TileB.jV L)) ∗ scopedSems0 (V d (Cert.Proof.TileB.cV L) (Cert.Proof.TileB.jV L))) : sProp 𝕄)
      = iprop(ownBufs (V d (Cert.Proof.TileB.cV L) (Cert.Proof.TileB.jV L)) ∗ ownSems0 (V d (Cert.Proof.TileB.cV L) (Cert.Proof.TileB.jV L))) := by
  rw [(K (F := F)).scopedBufs_V facts d (Cert.Proof.TileB.cV L) (Cert.Proof.TileB.jV L),
    SparseCore.Cfg.scopedSems0_V (Val := Elt F) d (Cert.Proof.TileB.cV L) (Cert.Proof.TileB.jV L)]

/-! ## The barrier kit, in the body's indexing -/

/-- The barrier kit as the kernel's body takes it, over any schedule: every cell's invariant, the tile's duty token in
    every cell's round, that every cell has reached the round, the tile's own position, and the credit for its round. -/
def kitR (Rd : Rounds.Schedule (GSem nD τ sig) ℕ 𝕄) (r : ℕ) (q : Fin 3) (d : Dev nD) (c : Fin τ.nSC) (i : Fin τ.nSub) : sProp 𝕄 :=
  iprop((∃ κ : GSem nD τ sig → ℕ, bigSep Finset.univ fun j : Fin (grid0.bound 1) =>
      cellInv EB Rd (κ (bcell d c (j.castLE hsub0))) (bcell d c (j.castLE hsub0)))
    ∗ (bigSep Finset.univ fun j : Fin (grid0.bound 1) => dutyTok EB (bcell d c (j.castLE hsub0)) r i.val)
    ∗ (bigSep Finset.univ fun j : Fin (grid0.bound 1) => reached (D := ℕ) EB (bcell d c (j.castLE hsub0)) r)
    ∗ atPos EB (bcell d c i) r (∅ : Finset ℕ) 0
    ∗ cred (tallyAt (bcell d c i) (some q) (grid0.bound 1)))

/-- The launch's kit for call 0 with the tile's position and the sixteen "reached" its operands carry is the body's kit. -/
theorem kit_conv0 (d : Dev nD) (L : grid0.Coords) :
    iprop(bkit (F := F) Tb 0 d (Cert.Proof.TileB.cV L) (Cert.Proof.TileB.jV L)
        ∗ atPos EB (bcell d ((cL0 L).castLE (by decide)) ((jL0 L).castLE (by decide))) 0 ∅ 0
        ∗ bigSep Finset.univ fun j : Fin 16 => reached EB (bcell d ((cL0 L).castLE (by decide)) (j.castLE (by decide))) 0)
      ⊢ kitR (F := F) (bRd (F := F) Tb) 0 0 d (Cert.Proof.TileB.cV L) (Cert.Proof.TileB.jV L) := by
  unfold bkit kitR
  iintro ⟨⟨Hinv, Htok, Hcred⟩, Hat, Hre⟩
  isplitl [Hinv]; · iexact Hinv
  isplitl [Htok]; · iexact Htok
  isplitl [Hre]; · iexact Hre
  isplitl [Hat]; · iexact Hat
  iexact Hcred

/-! ## The task's operands, cut the way the body takes them, and its results put back -/

/-- Tile `(c, i)`'s worker number is the body's. -/
theorem wid_eq (L : grid0.Coords) : (wid (cL0 L) (jL0 L)).val = 2 * (L 1).val + (L 0).val := rfl

/-- THE OPERANDS: the table's token, the index table's token (the worker's row out of it, the rest kept), the worker's
    output rows as its eighty chunks, and the staged rows as the stripe. -/
theorem go_conv0 (d : Dev nD) (L : grid0.Coords) (q : PosShare TreeShare) (Tx : S10000x128.Idx → F .f32) (Ix : S32x10496.Idx → BitVec 32)
    (fo : S10240x128.Idx → F .f32) :
    iprop((tab0 d ↦{q} wrT0 d Tx) ∗ (idxLoc d ↦{q} wrI d Ix) ∗ (out0 d ↦[(outRect (wid (cL0 L) (jL0 L))).set]{fullShare} fo)
        ∗ (∃ fs, sh0 d ((cL0 L).castLE (by decide)) ↦[(stageRect (jL0 L)).set]{fullShare} fs))
      ⊢ (iprop(Cert.Proof.TileB.goT d L q q Tx Ix fo
          ∗ (idxLoc d ↦[Finset.univ \ Cert.Proof.TileB.iRowSet L]{q} wrI d Ix)) : sProp 𝕄) := by
  unfold Cert.Proof.TileB.goT
  have hI : (idxLoc d ↦{q} wrI d Ix : sProp 𝕄)
      ⊢ iprop((Cert.Proof.TileB.iLoc d ↦[Cert.Proof.TileB.iRowSet L]{q} Ix) ∗ (idxLoc d ↦[Finset.univ \ Cert.Proof.TileB.iRowSet L]{q} wrI d Ix)) :=
    (pointsTo_split_subset (ℓ := idxLoc d) (q := q) (f := wrI d Ix) (Finset.subset_univ (Cert.Proof.TileB.iRowSet L))).1
  have hO : (out0 d ↦[(outRect (wid (cL0 L) (jL0 L))).set]{fullShare} fo : sProp 𝕄)
      ⊢ bigSep Finset.univ fun tb : Fin k0_t1_loop.trips × Fin 2 => (Cert.Proof.TileB.oLoc d ↦[Cert.Proof.TileB.oChunkSet L tb.1 tb.2]{fullShare} fo : sProp 𝕄) :=
    Entails.of_eq (Cert.Proof.TileB.oPts_chunks (F := F) (U := UU) d L (wid (cL0 L) (jL0 L)) (wid_eq L) fo)
  iintro ⟨Ht, Hi, Ho, ⟨%fs, Hs⟩⟩
  ihave Hi' := hI $$ Hi
  icases Hi' with ⟨Hrow, Hrest⟩
  isplitr [Hrest]
  · isplitl [Ht]; · iexact Ht
    isplitl [Hrow]; · iexact Hrow
    isplitl [Ho]; · iapply hO; iexact Ho
    iexists fs
    rw [stripe0_eq]
    iexact Hs
  · iexact Hrest

/-- THE RESULTS (their frame): the tokens back, the index table's token whole again, the eighty chunks as the worker's
    rows at some contents, the read token of the whole shared table and the kept remainder of the staged rows. -/
theorem td_conv0 (d : Dev nD) (L : grid0.Coords) (q : PosShare TreeShare) (Tx : S10000x128.Idx → F .f32) (Ix : S32x10496.Idx → BitVec 32) :
    iprop(Cert.Proof.TileB.tdT d L q q Tx Ix ∗ (idxLoc d ↦[Finset.univ \ Cert.Proof.TileB.iRowSet L]{q} wrI d Ix))
      ⊢ (iprop((tab0 d ↦{q} wrT0 d Tx) ∗ (idxLoc d ↦{q} wrI d Ix)
          ∗ (∃ fo, out0 d ↦[(outRect (wid (cL0 L) (jL0 L))).set]{fullShare} fo)
          ∗ (sh0 d ((cL0 L).castLE (by decide)) ↦{Transfers.shareTok fullShare 16 (jL0 L)} wrS0 d ((cL0 L).castLE (by decide)) Tx)
          ∗ (sh0 d ((cL0 L).castLE (by decide)) ↦[(stageRect (jL0 L)).set]{Transfers.shareDrop fullShare 16} wrS0 d ((cL0 L).castLE (by decide)) Tx)) : sProp 𝕄) := by
  unfold Cert.Proof.TileB.tdT
  have hI : iprop((Cert.Proof.TileB.iLoc d ↦[Cert.Proof.TileB.iRowSet L]{q} Ix) ∗ (idxLoc d ↦[Finset.univ \ Cert.Proof.TileB.iRowSet L]{q} wrI d Ix))
      ⊢ (idxLoc d ↦{q} wrI d Ix : sProp 𝕄) :=
    (pointsTo_split_subset (ℓ := idxLoc d) (q := q) (f := wrI d Ix) (Finset.subset_univ (Cert.Proof.TileB.iRowSet L))).2
  iintro ⟨⟨Ht, Hrow, Ho, Hsk, Hsd⟩, Hrest⟩
  isplitl [Ht]; · iexact Ht
  isplitl [Hrow Hrest]
  · iapply hI
    isplitl [Hrow]; · iexact Hrow
    iexact Hrest
  isplitl [Ho]
  · iapply (Cert.Proof.TileB.oChunks_join (F := F) (U := UU) d L (wid (cL0 L) (jL0 L)) (wid_eq L)); iexact Ho
  isplitl [Hsk]; · iexact Hsk
  rw [← stripe0_eq]
  iexact Hsd

/-- The worker's row of the index table, read through the kernel's view of it: entry `x` of the row is the table's
    entry `(w, x)`, `w` the worker's number. -/
theorem iRow_emb (L : grid0.Coords) (x : S10496.Idx) (hx : (x 0).val < 10496) :
    (Cert.Proof.TileB.iRowK L).view.emb x = ValueIdx.ix2 (wid (cL0 L) (jL0 L)) (⟨(x 0).val, hx⟩ : Fin 10496) := by
  have hk : Shape.reshapeEquiv (s := S1x10496) (s' := S10496) (squeezes_S1x10496_S10496).numel_eq x
      = (ValueIdx.ix2 (0 : Fin 1) (⟨(x 0).val, hx⟩ : Fin 10496) : S1x10496.Idx) :=
    Shape.reshapeEquiv_eq_of_rowMajor _ (by
      show ((⟨2, ![1, 10496]⟩ : Shape).rowMajor (ValueIdx.ix2 (0 : Fin 1) (⟨(x 0).val, hx⟩ : Fin 10496)) : ℕ) = ((⟨1, ![10496]⟩ : Shape).rowMajor x : ℕ)
      rw [Shape.rowMajor_val_two, Shape.rowMajor_val_one]; simp)
  show (Rect.unit (s := S32x10496) (k0_off1 L) S1x10496.size (k0_off1_inb L)).emb
    (Shape.reshapeEquiv (s := S1x10496) (s' := S10496) (squeezes_S1x10496_S10496).numel_eq x) = _
  rw [hk]
  funext a
  refine Fin.ext ?_
  have h1 := k0_off1_eq L
  match a with
  | ⟨0, _⟩ =>
    show (k0_off1 L) 0 + 1 * 0 = 2 * (L 1).val + (L 0).val
    rw [h1]; simp
  | ⟨1, _⟩ =>
    show (k0_off1 L) 1 + 1 * (x 0).val = (x 0).val
    rw [h1]; simp

/-- Every entry of the worker's row names a row of the table, in the form the kernel's body asks it. -/
theorem hin_conv0 (L : grid0.Coords) (Ix : S32x10496.Idx → BitVec 32) (hok : IdxOk (wid (cL0 L) (jL0 L)) Ix) :
    ∀ x, ((Cert.Proof.TileB.iRowK L).view.read (Elt F) Ix x).toNat < 10000 := by
  intro x
  rw [View.read_apply, iRow_emb L x (x 0).isLt]
  exact hok _

end Cert.Proof.KB

end
-- ==== Proof.ScTileAsmK.lean ====
/-
  The kernel's body on one subcore, stated over the body's own vocabulary with each result chunk at the neighbour sums,
  gives the statement the launch asks over its payloads: the kit, the operands and the scoped storage are cut the way the
  body takes them, the rest rides along beside the run, and the results are put back — the eighty chunks as the worker's
  rows at the sums.
-/
import proofs.«205366_g3083786518796_cont_9to1_852_38_alg».proof.Proof.ScTilePartsK
import proofs.«205366_g3083786518796_cont_9to1_852_38_alg».proof.Proof.GSumK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-- What the body hands back, each result chunk at the neighbour sums of the table over the index table. -/
def tdTv (d : Dev nD) (L : grid0.Coords) (qx qi : PosShare TreeShare) (Tx : S10000x128.Idx → F .f32) (Ix : S32x10496.Idx → BitVec 32) : sProp 𝕄 :=
  iprop((Cert.Proof.TileB.xLoc d ↦{qx} Tx) ∗ (Cert.Proof.TileB.iLoc d ↦[Cert.Proof.TileB.iRowSet L]{qi} Ix)
    ∗ (bigSep Finset.univ fun tb : Fin k0_t1_loop.trips × Fin 2 =>
        iprop(∃ f, (Cert.Proof.TileB.oLoc d ↦[Cert.Proof.TileB.oChunkSet L tb.1 tb.2]{fullShare} f)
          ∗ ⌜∀ x ∈ Cert.Proof.TileB.oChunkSet L tb.1 tb.2, f x = gsumF Tx Ix x⌝))
    ∗ (Cert.Proof.TileB.shLoc d (Cert.Proof.TileB.cV L) ↦{Cert.Proof.TileB.shTok (Cert.Proof.TileB.jV L)} Tx)
    ∗ (Cert.Proof.TileB.shLoc d (Cert.Proof.TileB.cV L) ↦[Cert.Proof.TileB.stripe (Cert.Proof.TileB.jL L)]{Cert.Proof.TileB.shKeep} Tx))

/-- The three scratches of the task, each whole at some contents; its six semaphores at zero. -/
abbrev scr3 (d : Dev nD) (L : grid0.Coords) : sProp 𝕄 :=
  iprop((∃ f, (V d (Cert.Proof.TileB.cV L) (Cert.Proof.TileB.jV L)).loc cc0_scratch0 ↦{fullShare} f)
    ∗ (∃ f, (V d (Cert.Proof.TileB.cV L) (Cert.Proof.TileB.jV L)).loc cc0_scratch1 ↦{fullShare} f)
    ∗ (∃ f, (V d (Cert.Proof.TileB.cV L) (Cert.Proof.TileB.jV L)).loc cc0_scratch2 ↦{fullShare} f))
abbrev sem6 (d : Dev nD) (L : grid0.Coords) : sProp 𝕄 :=
  iprop(semVal (Cert.Proof.TileB.cell d L cc0_scoped0.sem) 0 ∗ semVal (Cert.Proof.TileB.cell d L cc0_scoped1.sem) 0
    ∗ semVal (Cert.Proof.TileB.cell d L Cert.Proof.TileB.g0sem) 0 ∗ semVal (Cert.Proof.TileB.cell d L Cert.Proof.TileB.g1sem) 0
    ∗ semVal (Cert.Proof.TileB.cell d L Cert.Proof.TileB.o0sem) 0 ∗ semVal (Cert.Proof.TileB.cell d L Cert.Proof.TileB.o1sem) 0)

/-- THE BODY'S STATEMENT for call 0 in the body's own vocabulary, over the launch's barrier schedule, with the valued post. -/
def TileStmt0 : Prop :=
  ∀ (d : Dev nD) (L : grid0.Coords) (qx qi : PosShare TreeShare) (fo : S10240x128.Idx → F .f32)
    (O : CellTallies nD τ sig (HIx 3)) (W : Waits sig (HIx 3)), (∀ g, O g none = 0) →
    (∀ g ι, 0 < O g ι → 8 * (0 : Fin 3).val + 6 ≤ (K (F := F)).lev g ι) →
    (∀ x, ((Cert.Proof.TileB.iRowK L).view.read (Elt F) (Ib d) x).toNat < 10000) →
    iprop(levAts (K (F := F)).L (K (F := F)).lev ∗ kitR (F := F) (bRd (F := F) Tb) 0 0 d (Cert.Proof.TileB.cV L) (Cert.Proof.TileB.jV L)
        ∗ Cert.Proof.TileB.goT d L qx qi (Tb 0 d) (Ib d) fo ∗ scr3 (F := F) d L ∗ sem6 (F := F) d L
        ∗ owes (V d (Cert.Proof.TileB.cV L) (Cert.Proof.TileB.jV L)) (O + oxV 0 d (Cert.Proof.TileB.cV L)) W)
      ⊢ wp frame (wpE (defs₀ (F := F)) 𝒱₀ (V d (Cert.Proof.TileB.cV L) (Cert.Proof.TileB.jV L)) none) Set.univ
          (cc0__sc_gather_sum L (Memref.whole main_arg0_scv) (Memref.isWhole_whole _) (Memref.whole main_v7_scv) (Memref.isWhole_whole _)
            (Memref.whole main_v8_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scoped0 cc0_scoped1)
          fun _ => iprop(tdTv (F := F) d L qx qi (Tb 0 d) (Ib d)
            ∗ (atPos EB (bcell d (Cert.Proof.TileB.cV L) (Cert.Proof.TileB.jV L)) (0 + 1) (∅ : Finset ℕ) 0
                ∗ reached (D := ℕ) EB (bcell d (Cert.Proof.TileB.cV L) (Cert.Proof.TileB.jV L)) (0 + 1))
            ∗ scr3 (F := F) d L ∗ sem6 (F := F) d L
            ∗ ∃ W', ⌜∀ p ∈ W', p ∈ W ∨ p.2 = none ∨ p.2 = some (0 : Fin 3)⌝ ∗ owes (V d (Cert.Proof.TileB.cV L) (Cert.Proof.TileB.jV L)) O W')

/-- The eighty valued chunks are the worker's rows at contents related to the table and the index table as the launch asks. -/
def ChunksVal0 : Prop :=
  ∀ (d : Dev nD) (L : grid0.Coords) (Tx : S10000x128.Idx → F .f32) (Ix : S32x10496.Idx → BitVec 32),
    (bigSep Finset.univ fun tb : Fin k0_t1_loop.trips × Fin 2 =>
        (iprop(∃ f, (Cert.Proof.TileB.oLoc d ↦[Cert.Proof.TileB.oChunkSet L tb.1 tb.2]{fullShare} f)
          ∗ ⌜∀ x ∈ Cert.Proof.TileB.oChunkSet L tb.1 tb.2, f x = gsumF Tx Ix x⌝) : sProp 𝕄))
      ⊢ (iprop(∃ fo, (out0 d ↦[(outRect (wid (cL0 L) (jL0 L))).set]{fullShare} fo) ∗ ⌜SumRel (wid (cL0 L) (jL0 L)) Tx Ix (rdO0 d fo)⌝) : sProp 𝕄)

set_option maxRecDepth 16384 in
set_option maxHeartbeats 1000000 in
/-- THE ASSEMBLY for call 0: the launch's statement of the body from the body's own. -/
theorem bodySpec0_of_tile (ht : TileStmt0 (F := F) Tb Ib) (he : ChunksVal0 (F := F)) : BodySpec0 (F := F) Tb Ib := by
  intro d L O W hO hOlev
  have hgo : goQ Tb Ib 0 d (cL0 L) (jL0 L)
      = goPay (tab0 d) (idxLoc d) (out0 d) (sh0 d) (fun _ n => (stageRect n).set) (fun w => (outRect w).set) (wrT0 d) (wrI d) (Tb 0 d) (Ib d) 0 d (cL0 L) (jL0 L) := rfl
  have htd : tdQ Tb Ib 0 d (cL0 L) (jL0 L)
      = tdPay (tab0 d) (idxLoc d) (out0 d) (sh0 d) (fun _ n => (stageRect n).set) (fun w => (outRect w).set) (wrT0 d) (wrI d) (rdO0 d) (wrS0 d) (Tb 0 d) (Ib d) 0 d (cL0 L) (jL0 L) := rfl
  rw [hgo, htd, (K (F := F)).scopedBufs_V facts d (Cert.Proof.TileB.cV L) (Cert.Proof.TileB.jV L),
    SparseCore.Cfg.scopedSems0_V (Val := Elt F) d (Cert.Proof.TileB.cV L) (Cert.Proof.TileB.jV L),
    Cert.Proof.TileB.ownSems0_V (F := F) (U := UU) d L, Cert.Proof.TileB.ownBufs_V (F := F) (U := UU) d L]
  unfold goPay tdPay barCarry
  iintro ⟨#Hlv, Hkit, ⟨Ht, Hi, %hok, ⟨%fo, Ho⟩, Hs, Hat, #Hre⟩, ⟨Hb0, Hb1, Hb2, Hbrest⟩, ⟨Hs0, Hs1, Hs2, Hs3, Hs4, Hs5, Hsrest⟩, HO⟩
  ihave Hk := (kit_conv0 (F := F) Tb d L) $$ [Hkit Hat]
  · isplitl [Hkit]; · iexact Hkit
    isplitl [Hat]; · iexact Hat
    iexact Hre
  ihave Hg := (go_conv0 (F := F) d L (tileShare (cL0 L) (jL0 L)) (Tb 0 d) (Ib d) fo) $$ [Ht Hi Ho Hs]
  · isplitl [Ht]; · iexact Ht
    isplitl [Hi]; · iexact Hi
    isplitl [Ho]; · iexact Ho
    iexact Hs
  icases Hg with ⟨Hgo, Hirest⟩
  iapply (wp_wand_r frame (wpE (defs₀ (F := F)) 𝒱₀ (V d (Cert.Proof.TileB.cV L) (Cert.Proof.TileB.jV L)) none) Set.univ)
  isplitl [Hk Hgo Hb0 Hb1 Hb2 Hs0 Hs1 Hs2 Hs3 Hs4 Hs5 HO]
  · iapply (ht d L (tileShare (cL0 L) (jL0 L)) (tileShare (cL0 L) (jL0 L)) fo O W hO hOlev (hin_conv0 (F := F) L (Ib d) hok))
    isplitr; · iexact Hlv
    isplitl [Hk]; · iexact Hk
    isplitl [Hgo]; · iexact Hgo
    isplitl [Hb0 Hb1 Hb2]
    · isplitl [Hb0]; · iexact Hb0
      isplitl [Hb1]; · iexact Hb1
      iexact Hb2
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    iexact HO
  iintro %_ ⟨Htd, ⟨Hat1, Hre1⟩, ⟨Hb0, Hb1, Hb2⟩, ⟨Hs0, Hs1, Hs2, Hs3, Hs4, Hs5⟩, HW⟩
  unfold tdTv
  icases Htd with ⟨Ht, Hrow, Hch, Hsk, Hsd⟩
  ihave Ho := (he d L (Tb 0 d) (Ib d)) $$ Hch
  have hI : iprop((Cert.Proof.TileB.iLoc d ↦[Cert.Proof.TileB.iRowSet L]{tileShare (cL0 L) (jL0 L)} Ib d)
        ∗ (idxLoc d ↦[Finset.univ \ Cert.Proof.TileB.iRowSet L]{tileShare (cL0 L) (jL0 L)} wrI d (Ib d)))
      ⊢ (idxLoc d ↦{tileShare (cL0 L) (jL0 L)} wrI d (Ib d) : sProp 𝕄) :=
    (pointsTo_split_subset (ℓ := idxLoc d) (q := tileShare (cL0 L) (jL0 L)) (f := wrI d (Ib d)) (Finset.subset_univ (Cert.Proof.TileB.iRowSet L))).2
  have hSd : (Cert.Proof.TileB.shLoc d (Cert.Proof.TileB.cV L) ↦[Cert.Proof.TileB.stripe (Cert.Proof.TileB.jL L)]{Cert.Proof.TileB.shKeep} Tb 0 d : sProp 𝕄)
      ⊢ (sh0 d (Cert.Proof.TileB.cV L) ↦[(stageRect (jL0 L)).set]{Transfers.shareDrop fullShare 16} wrS0 d (Cert.Proof.TileB.cV L) (Tb 0 d) : sProp 𝕄) := by
    rw [stripe0_eq]
  isplitl [Ht Hrow Hirest Ho Hsk Hsd Hat1 Hre1]
  · isplitl [Ht]; · iexact Ht
    isplitl [Hrow Hirest]
    · iapply hI
      isplitl [Hrow]; · iexact Hrow
      iexact Hirest
    isplitl [Ho]; · iexact Ho
    isplitl [Hsk]; · iexact Hsk
    isplitl [Hsd]
    · iapply hSd; iexact Hsd
    isplitl [Hat1]; · iexact Hat1
    iexact Hre1
  isplitl [Hb0 Hb1 Hb2 Hbrest]
  · isplitl [Hb0]; · iexact Hb0
    isplitl [Hb1]; · iexact Hb1
    isplitl [Hb2]; · iexact Hb2
    iexact Hbrest
  isplitl [Hs0 Hs1 Hs2 Hs3 Hs4 Hs5 Hsrest]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsrest
  iexact HW

end Cert.Proof.KB

end
-- ==== Proof.BodyOwnC1K.lean ====
/-
  A subcore's own semaphores and buffers, with the ones its task uses picked out.

  The launch hands a vector subcore every semaphore scoped to it at zero and every buffer it owns at some contents.
  The gather-sum task uses six of the semaphores (the two of its scoped regions, the two gather slots and the two
  write-out slots) and three of the buffers (the index, row and result scratches); the rest is carried along.
-/
import proofs.«205366_g3083786518796_cont_9to1_852_38_alg».proof.Proof.BodyDefsC1K
import proofs.«205366_g3083786518796_cont_9to1_852_38_alg».proof.Proof.BodyLemmasC1K

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
variable [FloatOps F]
variable {U : Type} [URA U] [CountersIn U]

local notation "𝕄" => MT nD τ sig (HIx 3) (Elt F) ℕ U ℕ

variable (d : Dev nD) (L : grid3.Coords)

theorem cell_mem (sm : DmaSem sig) (h : (SemLoc.dma sm : SemLoc sig).isScoped .scVector = true) :
    cell d L sm ∈ ownCells (V d (cV L) (jV L)) := (mem_ownCells (g := cell d L sm)).mpr ⟨rfl, h⟩

theorem cell_ne {sm sm' : DmaSem sig} (h : sm ≠ sm') : cell d L sm ≠ cell d L sm' :=
  fun e => h (SemLoc.dma.inj (Prod.mk.inj e).2)

/-- The subcore's scoped semaphores at zero: the six its task uses, and the rest. -/
theorem ownSems0_V :
    (ownSems0 (V d (cV L) (jV L)) : sProp 𝕄)
      = iprop(semVal (cell d L cc3_scoped0.sem) 0 ∗ semVal (cell d L cc3_scoped1.sem) 0 ∗ semVal (cell d L g0sem) 0 ∗ semVal (cell d L g1sem) 0
          ∗ semVal (cell d L o0sem) 0 ∗ semVal (cell d L o1sem) 0
          ∗ bigSep (((((((ownCells (V d (cV L) (jV L))).erase (cell d L cc3_scoped0.sem)).erase (cell d L cc3_scoped1.sem)).erase (cell d L g0sem)).erase (cell d L g1sem)).erase
              (cell d L o0sem)).erase (cell d L o1sem)) fun g => semVal g 0) := by
  unfold SparseCore.Cfg.ownSems0
  rw [SparseCore.bigSep_erase' (cell_mem d L cc3_scoped0.sem (by decide)),
    SparseCore.bigSep_erase' (Finset.mem_erase.mpr ⟨cell_ne d L (by decide), cell_mem d L cc3_scoped1.sem (by decide)⟩),
    SparseCore.bigSep_erase' (Finset.mem_erase.mpr ⟨cell_ne d L (by decide), Finset.mem_erase.mpr ⟨cell_ne d L (by decide), cell_mem d L g0sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L g1sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L o0sem (by decide)⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
        Finset.mem_erase.mpr ⟨cell_ne d L (by decide), cell_mem d L o1sem (by decide)⟩⟩⟩⟩⟩)]

theorem scratch_mem (b : Ref sig .scVector) (h : ((Proc.scVector (cV L) (jV L)).devRef b : DevRef τ sig).owner = .proc (Proc.scVector (cV L) (jV L))) :
    (Proc.scVector (cV L) (jV L)).devRef b ∈ ownRefs (τ := τ) (sig := sig) (.scVector (cV L) (jV L)) :=
  SparseCore.Cfg.mem_ownRefs_of_owner h

/-- The subcore's own buffers at some contents: the three scratches its task uses, and the rest. -/
theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ (∃ f, (V d (cV L) (jV L)).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  rw [SparseCore.bigSep_erase' (scratch_mem L cc3_scratch0 rfl),
    SparseCore.bigSep_erase' (Finset.mem_erase.mpr ⟨fun e => absurd (Proc.devRef_injective _ e) (show (cc3_scratch1 : Ref sig .scVector) ≠ cc3_scratch0 by decide), scratch_mem L cc3_scratch1 rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide), scratch_mem L cc3_scratch2 rfl⟩⟩)]

end Cert.Proof.TileB1

end
-- ==== Proof.BodyCoverC1K.lean ====
/-
  A worker's output rows as its eighty result chunks.

  Trip t (of forty) and slot b (of two) of subcore L write the four rows 320·w + 8·t + 4·b … + 3 of the padded
  output, w = 2·(L 1) + (L 0) the worker's number.  For a fixed worker these eighty row ranges are pairwise
  disjoint and their union is the worker's 320 rows 320·w … 320·w + 319; so owning the worker's rows outright is
  owning the eighty chunks, and eighty chunks each at some contents join into the rows at some contents.
-/
import proofs.«205366_g3083786518796_cont_9to1_852_38_alg».proof.Proof.BodyDefsC1K
import proofs.«205366_g3083786518796_cont_9to1_852_38_alg».proof.Proof.BodyLemmasC1K
import proofs.«205366_g3083786518796_cont_9to1_852_38_alg».proof.Proof.ScPayK

noncomputable section

namespace Cert.Proof.TileB1

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}
variable [FloatOps F]
variable {U : Type} [URA U] [CountersIn U]

local notation "𝕄" => MT nD τ sig (HIx 3) (Elt F) ℕ U ℕ

/-- The loop runs forty trips. -/
theorem trips_eq : k3_t1_loop.trips = 40 := by decide

theorem oChunkSet_eq (L : grid3.Coords) (t : Fin k3_t1_loop.trips) (b : Fin 2) :
    oChunkSet L t b = (Rect.unit (s := S10240x128) (k3_off20 L t (BitVec.ofNat 32 b.val)) S4x128.size (k3_off20_inb L t b)).set :=
  View.set_slice_whole _ _

/-- A chunk is four whole rows. -/
theorem mem_oChunkSet (L : grid3.Coords) (t : Fin k3_t1_loop.trips) (b : Fin 2) (x : S10240x128.Idx) :
    x ∈ oChunkSet L t b ↔ 640 * (L 1).val + 320 * (L 0).val + 8 * t.val + 4 * b.val ≤ (x 0 : ℕ)
      ∧ (x 0 : ℕ) < 640 * (L 1).val + 320 * (L 0).val + 8 * t.val + 4 * b.val + 4 := by
  rw [oChunkSet_eq, Rect.mem_set_unit, k3_off20_eq]
  constructor
  · intro h; have := h 0; simpa using this
  · intro h a
    match a with
    | 0 => simpa using h
    | 1 => exact ⟨Nat.zero_le _, by simpa using (x 1).isLt⟩

/-- A worker's rows. -/
theorem mem_outRect (w : Fin 32) (x : S10240x128.Idx) :
    x ∈ (Cert.Proof.KB.outRect w).set ↔ 320 * w.val ≤ (x 0 : ℕ) ∧ (x 0 : ℕ) < 320 * w.val + 320 := by
  unfold Cert.Proof.KB.outRect
  rw [Rect.mem_set_unit]
  constructor
  · intro h; have := h 0; simpa using this
  · intro h a
    match a with
    | 0 => simpa using h
    | 1 => exact ⟨Nat.zero_le _, by simpa using (x 1).isLt⟩

theorem oChunks_disjoint (L : grid3.Coords) :
    ∀ tb ∈ (Finset.univ : Finset (Fin k3_t1_loop.trips × Fin 2)), ∀ tb' ∈ (Finset.univ : Finset (Fin k3_t1_loop.trips × Fin 2)),
      tb ≠ tb' → Disjoint (oChunkSet L tb.1 tb.2) (oChunkSet L tb'.1 tb'.2) := by
  rintro ⟨t, b⟩ - ⟨t', b'⟩ - hne
  rw [Finset.disjoint_left]
  intro x h h'
  rw [mem_oChunkSet] at h h'
  have hd : t.val ≠ t'.val ∨ b.val ≠ b'.val := by
    by_contra hh
    have hh' := not_or.mp hh
    exact hne (Prod.ext (Fin.ext (not_not.mp hh'.1)) (Fin.ext (not_not.mp hh'.2)))
  have hb := b.isLt
  have hb' := b'.isLt
  dsimp only at h h'
  omega

theorem oChunks_cover (L : grid3.Coords) (w : Fin 32) (hw : w.val = 2 * (L 1).val + (L 0).val) :
    (Finset.univ : Finset (Fin k3_t1_loop.trips × Fin 2)).biUnion (fun tb => oChunkSet L tb.1 tb.2) = (Cert.Proof.KB.outRect w).set := by
  ext x
  simp only [Finset.mem_biUnion, Finset.mem_univ, true_and]
  rw [mem_outRect]
  constructor
  · rintro ⟨⟨t, b⟩, h⟩
    rw [mem_oChunkSet] at h
    have ht : t.val < 40 := lt_of_lt_of_eq t.isLt trips_eq
    have hb := b.isLt
    dsimp only at h
    omega
  · intro h
    refine ⟨(⟨((x 0 : ℕ) - 320 * w.val) / 8, by rw [trips_eq]; omega⟩, ⟨(((x 0 : ℕ) - 320 * w.val) % 8) / 4, by omega⟩), (mem_oChunkSet _ _ _ _).mpr ?_⟩
    dsimp only
    omega

/-- A worker's rows owned outright are its eighty chunks. -/
theorem oPts_chunks (d : Dev nD) (L : grid3.Coords) (w : Fin 32) (hw : w.val = 2 * (L 1).val + (L 0).val) (f : Buf (Elt F) (oLoc d)) :
    (oLoc d ↦[(Cert.Proof.KB.outRect w).set]{fullShare} f : sProp 𝕄)
      = bigSep Finset.univ fun tb : Fin k3_t1_loop.trips × Fin 2 => oLoc d ↦[oChunkSet L tb.1 tb.2]{fullShare} f := by
  rw [← pointsTo_biUnion Finset.univ (ℓ := oLoc d) (fun tb : Fin k3_t1_loop.trips × Fin 2 => oChunkSet L tb.1 tb.2) (oChunks_disjoint L),
    oChunks_cover L w hw]

/-- Eighty chunks, each at some contents, are the worker's rows at some contents. -/
theorem oChunks_join (d : Dev nD) (L : grid3.Coords) (w : Fin 32) (hw : w.val = 2 * (L 1).val + (L 0).val) :
    (bigSep Finset.univ fun tb : Fin k3_t1_loop.trips × Fin 2 => iprop(∃ f, oLoc d ↦[oChunkSet L tb.1 tb.2]{fullShare} f))
      ⊢ (iprop(∃ f, oLoc d ↦[(Cert.Proof.KB.outRect w).set]{fullShare} f) : sProp 𝕄) := by
  refine (bigSep_exists_pi Finset.univ (fun (tb : Fin k3_t1_loop.trips × Fin 2) (f : Buf (Elt F) (oLoc d)) =>
    (oLoc d ↦[oChunkSet L tb.1 tb.2]{fullShare} f : sProp 𝕄))).trans ?_
  iintro ⟨%fs, H⟩
  ihave H' := (pointsTo_biUnion_join Finset.univ (fun tb : Fin k3_t1_loop.trips × Fin 2 => oChunkSet L tb.1 tb.2) fs
    (fs (⟨0, by rw [trips_eq]; omega⟩, 0)) (oChunks_disjoint L)) $$ H
  icases H' with ⟨%g, -, Hg⟩
  rw [oChunks_cover L w hw]
  iexists g; iexact Hg

end Cert.Proof.TileB1

end
-- ==== Proof.ScTileParts1K.lean ====
/-
  The parts of a vector subcore's task obligation that do not depend on the kernel's body: the reduction of the launch's
  obligation to a statement about the body on one subcore; the tile's scoped storage split into what the task uses and
  the rest; the launch's barrier kit in the body's indexing; the task's operands cut the way the body takes them (the
  index table's row out of the whole table, the output rows as the eighty chunks, the staged rows as the stripe) and
  the results put back.
-/
import proofs.«205366_g3083786518796_cont_9to1_852_38_alg».proof.Proof.ScPayK
import proofs.«205366_g3083786518796_cont_9to1_852_38_alg».proof.Proof.BodyDefsC1K
import proofs.«205366_g3083786518796_cont_9to1_852_38_alg».proof.Proof.BodyLemmasC1K
import proofs.«205366_g3083786518796_cont_9to1_852_38_alg».proof.Proof.BodyOwnC1K
import proofs.«205366_g3083786518796_cont_9to1_852_38_alg».proof.Proof.BodyCoverC1K
import proofs.«205366_g3083786518796_cont_9to1_852_38_alg».proof.Proof.ScBarPayK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-! ## Call 0 -/

/-- The subcore's coordinates as the launch payloads index them. -/
abbrev cL1 (L : grid3.Coords) : Fin 2 := Fin.cast (by decide) (L 0)
abbrev jL1 (L : grid3.Coords) : Fin 16 := Fin.cast (by decide) (L 1)

theorem defs₀_vector1 (c : Fin τ.nSC) (s : Fin τ.nSub) :
    defs₀ (F := F) (.scVector c s) 3 ()
      = SparseCore.onTile hcore3 hsub3 (fun c s => cc3__sc_gather_sum (Cert.Proof.TileB1.coordsV c s)
          (Memref.whole main_v11_0_scv) (Memref.isWhole_whole _) (Memref.whole main_v7_scv) (Memref.isWhole_whole _)
          (Memref.whole main_v12_scv) (Memref.isWhole_whole _) (Memref.whole cc3_scratch0) (Memref.isWhole_whole _)
          (Memref.whole cc3_scratch1) (Memref.isWhole_whole _) (Memref.whole cc3_scratch2) (Memref.isWhole_whole _)
          (Memref.whole cc3_scratch3) (Memref.isWhole_whole _) cc3_scratch4 cc3_scratch5 cc3_scoped0 cc3_scoped1) ⟨⟩ c s := rfl

/-- THE BODY'S STATEMENT for call 0, over the launch's payloads: the kernel on vector subcore `L`, from its barrier kit, its
    task's operands, its scoped storage and what it owes, to the task's results. -/
def BodySpec1 : Prop :=
  ∀ (d : Dev nD) (L : grid3.Coords) (O : CellTallies nD τ sig (HIx 3)) (W : Waits sig (HIx 3)), (∀ g, O g none = 0) →
    (∀ g ι, 0 < O g ι → 8 * (1 : Fin 3).val + 6 ≤ (K (F := F)).lev g ι) →
    iprop(levAts (K (F := F)).L (K (F := F)).lev ∗ bkit (F := F) Tb 1 d (Cert.Proof.TileB1.cV L) (Cert.Proof.TileB1.jV L)
        ∗ goQ Tb Ib 1 d (cL1 L) (jL1 L)
        ∗ scopedBufs (V d (Cert.Proof.TileB1.cV L) (Cert.Proof.TileB1.jV L)) ∗ scopedSems0 (V d (Cert.Proof.TileB1.cV L) (Cert.Proof.TileB1.jV L))
        ∗ owes (V d (Cert.Proof.TileB1.cV L) (Cert.Proof.TileB1.jV L)) (O + oxV 1 d (Cert.Proof.TileB1.cV L)) W)
      ⊢ wp frame (wpE (defs₀ (F := F)) 𝒱₀ (V d (Cert.Proof.TileB1.cV L) (Cert.Proof.TileB1.jV L)) none) Set.univ
          (cc3__sc_gather_sum L (Memref.whole main_v11_0_scv) (Memref.isWhole_whole _) (Memref.whole main_v7_scv) (Memref.isWhole_whole _)
            (Memref.whole main_v12_scv) (Memref.isWhole_whole _) (Memref.whole cc3_scratch0) (Memref.isWhole_whole _)
            (Memref.whole cc3_scratch1) (Memref.isWhole_whole _) (Memref.whole cc3_scratch2) (Memref.isWhole_whole _)
            (Memref.whole cc3_scratch3) (Memref.isWhole_whole _) cc3_scratch4 cc3_scratch5 cc3_scoped0 cc3_scoped1)
          fun _ => iprop(tdQ Tb Ib 1 d (cL1 L) (jL1 L)
            ∗ scopedBufs (V d (Cert.Proof.TileB1.cV L) (Cert.Proof.TileB1.jV L)) ∗ scopedSems0 (V d (Cert.Proof.TileB1.cV L) (Cert.Proof.TileB1.jV L))
            ∗ ∃ W', ⌜∀ p ∈ W', p ∈ W ∨ p.2 = none ∨ p.2 = some (1 : Fin 3)⌝ ∗ owes (V d (Cert.Proof.TileB1.cV L) (Cert.Proof.TileB1.jV L)) O W')

set_option maxRecDepth 16384 in
/-- The launch's obligation for call 0 from the body's statement. -/
theorem tileObl1_of_body (hbody : BodySpec1 (F := F) Tb Ib) : (K (F := F)).TileObl (D (F := F)) 𝒱 (P (F := F) Tb Ib) v₀ 1 := by
  intro d c i O W hO hOlev _
  have hci : ((K (F := F)).core 1 c).val < grid3.bound 0 ∧ ((K (F := F)).sub 1 i).val < grid3.bound 1 := ⟨c.isLt, i.isLt⟩
  rw [show (P (F := F) Tb Ib).ox 1 (V d ((K (F := F)).core 1 c) ((K (F := F)).sub 1 i)) = oxV 1 d ((K (F := F)).core 1 c) from rfl,
    show (P (F := F) Tb Ib).x 1 (V d ((K (F := F)).core 1 c) ((K (F := F)).sub 1 i)) = bkit (F := F) Tb 1 d ((K (F := F)).core 1 c) ((K (F := F)).sub 1 i) from rfl]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact hbody d (Cert.Proof.TileB1.coordsV ⟨_, hci.1⟩ ⟨_, hci.2⟩) O W hO hOlev

/-! ## The scoped storage: the three scratches and six semaphores the task uses, and the rest -/

/-- A vector subcore's scoped buffers and semaphores, as the launch hands them: the task's three scratches at some
    contents, its six semaphores at zero, and the rest of each. -/
theorem scoped_split1 (d : Dev nD) (L : grid3.Coords) :
    (iprop(scopedBufs (V d (Cert.Proof.TileB1.cV L) (Cert.Proof.TileB1.jV L)) ∗ scopedSems0 (V d (Cert.Proof.TileB1.cV L) (Cert.Proof.TileB1.jV L))) : sProp 𝕄)
      = iprop(ownBufs (V d (Cert.Proof.TileB1.cV L) (Cert.Proof.TileB1.jV L)) ∗ ownSems0 (V d (Cert.Proof.TileB1.cV L) (Cert.Proof.TileB1.jV L))) := by
  rw [(K (F := F)).scopedBufs_V facts d (Cert.Proof.TileB1.cV L) (Cert.Proof.TileB1.jV L),
    SparseCore.Cfg.scopedSems0_V (Val := Elt F) d (Cert.Proof.TileB1.cV L) (Cert.Proof.TileB1.jV L)]

/-! ## The barrier kit, in the body's indexing -/

/-- The barrier kit as the kernel's body takes it, over any schedule: every cell's invariant, the tile's duty token in
    every cell's round, that every cell has reached the round, the tile's own position, and the credit for its round. -/
def kitR1 (Rd : Rounds.Schedule (GSem nD τ sig) ℕ 𝕄) (r : ℕ) (q : Fin 3) (d : Dev nD) (c : Fin τ.nSC) (i : Fin τ.nSub) : sProp 𝕄 :=
  iprop((∃ κ : GSem nD τ sig → ℕ, bigSep Finset.univ fun j : Fin (grid3.bound 1) =>
      cellInv EB Rd (κ (bcell d c (j.castLE hsub3))) (bcell d c (j.castLE hsub3)))
    ∗ (bigSep Finset.univ fun j : Fin (grid3.bound 1) => dutyTok EB (bcell d c (j.castLE hsub3)) r i.val)
    ∗ (bigSep Finset.univ fun j : Fin (grid3.bound 1) => reached (D := ℕ) EB (bcell d c (j.castLE hsub3)) r)
    ∗ atPos EB (bcell d c i) r (∅ : Finset ℕ) 0
    ∗ cred (tallyAt (bcell d c i) (some q) (grid3.bound 1)))

/-- The launch's kit for call 0 with the tile's position and the sixteen "reached" its operands carry is the body's kit. -/
theorem kit_conv1 (d : Dev nD) (L : grid3.Coords) :
    iprop(bkit (F := F) Tb 1 d (Cert.Proof.TileB1.cV L) (Cert.Proof.TileB1.jV L)
        ∗ atPos EB (bcell d ((cL1 L).castLE (by decide)) ((jL1 L).castLE (by decide))) 1 ∅ 0
        ∗ bigSep Finset.univ fun j : Fin 16 => reached EB (bcell d ((cL1 L).castLE (by decide)) (j.castLE (by decide))) 1)
      ⊢ kitR1 (F := F) (bRd (F := F) Tb) 1 1 d (Cert.Proof.TileB1.cV L) (Cert.Proof.TileB1.jV L) := by
  unfold bkit kitR1
  iintro ⟨⟨Hinv, Htok, Hcred⟩, Hat, Hre⟩
  isplitl [Hinv]; · iexact Hinv
  isplitl [Htok]; · iexact Htok
  isplitl [Hre]; · iexact Hre
  isplitl [Hat]; · iexact Hat
  iexact Hcred

/-! ## The task's operands, cut the way the body takes them, and its results put back -/

/-- Tile `(c, i)`'s worker number is the body's. -/
theorem wid_eq1 (L : grid3.Coords) : (wid (cL1 L) (jL1 L)).val = 2 * (L 1).val + (L 0).val := rfl

/-- THE OPERANDS: the table's token, the index table's token (the worker's row out of it, the rest kept), the worker's
    output rows as its eighty chunks, and the staged rows as the stripe. -/
theorem go_conv1 (d : Dev nD) (L : grid3.Coords) (q : PosShare TreeShare) (Tx : S10000x128.Idx → F .f32) (Ix : S32x10496.Idx → BitVec 32)
    (fo : S10240x128.Idx → F .f32) :
    iprop((tab1 d ↦{q} wrT1 d Tx) ∗ (idxLoc d ↦{q} wrI d Ix) ∗ (out1 d ↦[(outRect (wid (cL1 L) (jL1 L))).set]{fullShare} fo)
        ∗ (∃ fs, sh1 d ((cL1 L).castLE (by decide)) ↦[(stageRect (jL1 L)).set]{fullShare} fs))
      ⊢ (iprop(Cert.Proof.TileB1.goT d L q q Tx Ix fo
          ∗ (idxLoc d ↦[Finset.univ \ Cert.Proof.TileB1.iRowSet L]{q} wrI d Ix)) : sProp 𝕄) := by
  unfold Cert.Proof.TileB1.goT
  have hI : (idxLoc d ↦{q} wrI d Ix : sProp 𝕄)
      ⊢ iprop((Cert.Proof.TileB1.iLoc d ↦[Cert.Proof.TileB1.iRowSet L]{q} Ix) ∗ (idxLoc d ↦[Finset.univ \ Cert.Proof.TileB1.iRowSet L]{q} wrI d Ix)) :=
    (pointsTo_split_subset (ℓ := idxLoc d) (q := q) (f := wrI d Ix) (Finset.subset_univ (Cert.Proof.TileB1.iRowSet L))).1
  have hO : (out1 d ↦[(outRect (wid (cL1 L) (jL1 L))).set]{fullShare} fo : sProp 𝕄)
      ⊢ bigSep Finset.univ fun tb : Fin k3_t1_loop.trips × Fin 2 => (Cert.Proof.TileB1.oLoc d ↦[Cert.Proof.TileB1.oChunkSet L tb.1 tb.2]{fullShare} fo : sProp 𝕄) :=
    Entails.of_eq (Cert.Proof.TileB1.oPts_chunks (F := F) (U := UU) d L (wid (cL1 L) (jL1 L)) (wid_eq1 L) fo)
  iintro ⟨Ht, Hi, Ho, ⟨%fs, Hs⟩⟩
  ihave Hi' := hI $$ Hi
  icases Hi' with ⟨Hrow, Hrest⟩
  isplitr [Hrest]
  · isplitl [Ht]; · iexact Ht
    isplitl [Hrow]; · iexact Hrow
    isplitl [Ho]; · iapply hO; iexact Ho
    iexists fs
    rw [stripe1_eq]
    iexact Hs
  · iexact Hrest

/-- THE RESULTS (their frame): the tokens back, the index table's token whole again, the eighty chunks as the worker's
    rows at some contents, the read token of the whole shared table and the kept remainder of the staged rows. -/
theorem td_conv1 (d : Dev nD) (L : grid3.Coords) (q : PosShare TreeShare) (Tx : S10000x128.Idx → F .f32) (Ix : S32x10496.Idx → BitVec 32) :
    iprop(Cert.Proof.TileB1.tdT d L q q Tx Ix ∗ (idxLoc d ↦[Finset.univ \ Cert.Proof.TileB1.iRowSet L]{q} wrI d Ix))
      ⊢ (iprop((tab1 d ↦{q} wrT1 d Tx) ∗ (idxLoc d ↦{q} wrI d Ix)
          ∗ (∃ fo, out1 d ↦[(outRect (wid (cL1 L) (jL1 L))).set]{fullShare} fo)
          ∗ (sh1 d ((cL1 L).castLE (by decide)) ↦{Transfers.shareTok fullShare 16 (jL1 L)} wrS1 d ((cL1 L).castLE (by decide)) Tx)
          ∗ (sh1 d ((cL1 L).castLE (by decide)) ↦[(stageRect (jL1 L)).set]{Transfers.shareDrop fullShare 16} wrS1 d ((cL1 L).castLE (by decide)) Tx)) : sProp 𝕄) := by
  unfold Cert.Proof.TileB1.tdT
  have hI : iprop((Cert.Proof.TileB1.iLoc d ↦[Cert.Proof.TileB1.iRowSet L]{q} Ix) ∗ (idxLoc d ↦[Finset.univ \ Cert.Proof.TileB1.iRowSet L]{q} wrI d Ix))
      ⊢ (idxLoc d ↦{q} wrI d Ix : sProp 𝕄) :=
    (pointsTo_split_subset (ℓ := idxLoc d) (q := q) (f := wrI d Ix) (Finset.subset_univ (Cert.Proof.TileB1.iRowSet L))).2
  iintro ⟨⟨Ht, Hrow, Ho, Hsk, Hsd⟩, Hrest⟩
  isplitl [Ht]; · iexact Ht
  isplitl [Hrow Hrest]
  · iapply hI
    isplitl [Hrow]; · iexact Hrow
    iexact Hrest
  isplitl [Ho]
  · iapply (Cert.Proof.TileB1.oChunks_join (F := F) (U := UU) d L (wid (cL1 L) (jL1 L)) (wid_eq1 L)); iexact Ho
  isplitl [Hsk]; · iexact Hsk
  rw [← stripe1_eq]
  iexact Hsd

/-- The worker's row of the index table, read through the kernel's view of it: entry `x` of the row is the table's
    entry `(w, x)`, `w` the worker's number. -/
theorem iRow_emb1 (L : grid3.Coords) (x : S10496.Idx) (hx : (x 0).val < 10496) :
    (Cert.Proof.TileB1.iRowK L).view.emb x = ValueIdx.ix2 (wid (cL1 L) (jL1 L)) (⟨(x 0).val, hx⟩ : Fin 10496) := by
  have hk : Shape.reshapeEquiv (s := S1x10496) (s' := S10496) (squeezes_S1x10496_S10496).numel_eq x
      = (ValueIdx.ix2 (0 : Fin 1) (⟨(x 0).val, hx⟩ : Fin 10496) : S1x10496.Idx) :=
    Shape.reshapeEquiv_eq_of_rowMajor _ (by
      show ((⟨2, ![1, 10496]⟩ : Shape).rowMajor (ValueIdx.ix2 (0 : Fin 1) (⟨(x 0).val, hx⟩ : Fin 10496)) : ℕ) = ((⟨1, ![10496]⟩ : Shape).rowMajor x : ℕ)
      rw [Shape.rowMajor_val_two, Shape.rowMajor_val_one]; simp)
  show (Rect.unit (s := S32x10496) (k3_off1 L) S1x10496.size (k3_off1_inb L)).emb
    (Shape.reshapeEquiv (s := S1x10496) (s' := S10496) (squeezes_S1x10496_S10496).numel_eq x) = _
  rw [hk]
  funext a
  refine Fin.ext ?_
  have h1 := k3_off1_eq L
  match a with
  | ⟨0, _⟩ =>
    show (k3_off1 L) 0 + 1 * 0 = 2 * (L 1).val + (L 0).val
    rw [h1]; simp
  | ⟨1, _⟩ =>
    show (k3_off1 L) 1 + 1 * (x 0).val = (x 0).val
    rw [h1]; simp

/-- Every entry of the worker's row names a row of the table, in the form the kernel's body asks it. -/
theorem hin_conv1 (L : grid3.Coords) (Ix : S32x10496.Idx → BitVec 32) (hok : IdxOk (wid (cL1 L) (jL1 L)) Ix) :
    ∀ x, ((Cert.Proof.TileB1.iRowK L).view.read (Elt F) Ix x).toNat < 10000 := by
  intro x
  rw [View.read_apply, iRow_emb1 L x (x 0).isLt]
  exact hok _

end Cert.Proof.KB

end
-- ==== Proof.ScTileAsm1K.lean ====
/-
  The kernel's body on one subcore, stated over the body's own vocabulary with each result chunk at the neighbour sums,
  gives the statement the launch asks over its payloads: the kit, the operands and the scoped storage are cut the way the
  body takes them, the rest rides along beside the run, and the results are put back — the eighty chunks as the worker's
  rows at the sums.
-/
import proofs.«205366_g3083786518796_cont_9to1_852_38_alg».proof.Proof.ScTileParts1K
import proofs.«205366_g3083786518796_cont_9to1_852_38_alg».proof.Proof.GSumK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-- What the body hands back, each result chunk at the neighbour sums of the table over the index table. -/
def tdTv1 (d : Dev nD) (L : grid3.Coords) (qx qi : PosShare TreeShare) (Tx : S10000x128.Idx → F .f32) (Ix : S32x10496.Idx → BitVec 32) : sProp 𝕄 :=
  iprop((Cert.Proof.TileB1.xLoc d ↦{qx} Tx) ∗ (Cert.Proof.TileB1.iLoc d ↦[Cert.Proof.TileB1.iRowSet L]{qi} Ix)
    ∗ (bigSep Finset.univ fun tb : Fin k3_t1_loop.trips × Fin 2 =>
        iprop(∃ f, (Cert.Proof.TileB1.oLoc d ↦[Cert.Proof.TileB1.oChunkSet L tb.1 tb.2]{fullShare} f)
          ∗ ⌜∀ x ∈ Cert.Proof.TileB1.oChunkSet L tb.1 tb.2, f x = gsumF Tx Ix x⌝))
    ∗ (Cert.Proof.TileB1.shLoc d (Cert.Proof.TileB1.cV L) ↦{Cert.Proof.TileB1.shTok (Cert.Proof.TileB1.jV L)} Tx)
    ∗ (Cert.Proof.TileB1.shLoc d (Cert.Proof.TileB1.cV L) ↦[Cert.Proof.TileB1.stripe (Cert.Proof.TileB1.jL L)]{Cert.Proof.TileB1.shKeep} Tx))

/-- The three scratches of the task, each whole at some contents; its six semaphores at zero. -/
abbrev scr3c1 (d : Dev nD) (L : grid3.Coords) : sProp 𝕄 :=
  iprop((∃ f, (V d (Cert.Proof.TileB1.cV L) (Cert.Proof.TileB1.jV L)).loc cc3_scratch0 ↦{fullShare} f)
    ∗ (∃ f, (V d (Cert.Proof.TileB1.cV L) (Cert.Proof.TileB1.jV L)).loc cc3_scratch1 ↦{fullShare} f)
    ∗ (∃ f, (V d (Cert.Proof.TileB1.cV L) (Cert.Proof.TileB1.jV L)).loc cc3_scratch2 ↦{fullShare} f))
abbrev sem6c1 (d : Dev nD) (L : grid3.Coords) : sProp 𝕄 :=
  iprop(semVal (Cert.Proof.TileB1.cell d L cc3_scoped0.sem) 0 ∗ semVal (Cert.Proof.TileB1.cell d L cc3_scoped1.sem) 0
    ∗ semVal (Cert.Proof.TileB1.cell d L Cert.Proof.TileB1.g0sem) 0 ∗ semVal (Cert.Proof.TileB1.cell d L Cert.Proof.TileB1.g1sem) 0
    ∗ semVal (Cert.Proof.TileB1.cell d L Cert.Proof.TileB1.o0sem) 0 ∗ semVal (Cert.Proof.TileB1.cell d L Cert.Proof.TileB1.o1sem) 0)

/-- THE BODY'S STATEMENT for call 0 in the body's own vocabulary, over the launch's barrier schedule, with the valued post. -/
def TileStmt1 : Prop :=
  ∀ (d : Dev nD) (L : grid3.Coords) (qx qi : PosShare TreeShare) (fo : S10240x128.Idx → F .f32)
    (O : CellTallies nD τ sig (HIx 3)) (W : Waits sig (HIx 3)), (∀ g, O g none = 0) →
    (∀ g ι, 0 < O g ι → 8 * (1 : Fin 3).val + 6 ≤ (K (F := F)).lev g ι) →
    (∀ x, ((Cert.Proof.TileB1.iRowK L).view.read (Elt F) (Ib d) x).toNat < 10000) →
    iprop(levAts (K (F := F)).L (K (F := F)).lev ∗ kitR1 (F := F) (bRd (F := F) Tb) 1 1 d (Cert.Proof.TileB1.cV L) (Cert.Proof.TileB1.jV L)
        ∗ Cert.Proof.TileB1.goT d L qx qi (Tb 1 d) (Ib d) fo ∗ scr3c1 (F := F) d L ∗ sem6c1 (F := F) d L
        ∗ owes (V d (Cert.Proof.TileB1.cV L) (Cert.Proof.TileB1.jV L)) (O + oxV 1 d (Cert.Proof.TileB1.cV L)) W)
      ⊢ wp frame (wpE (defs₀ (F := F)) 𝒱₀ (V d (Cert.Proof.TileB1.cV L) (Cert.Proof.TileB1.jV L)) none) Set.univ
          (cc3__sc_gather_sum L (Memref.whole main_v11_0_scv) (Memref.isWhole_whole _) (Memref.whole main_v7_scv) (Memref.isWhole_whole _)
            (Memref.whole main_v12_scv) (Memref.isWhole_whole _) (Memref.whole cc3_scratch0) (Memref.isWhole_whole _)
            (Memref.whole cc3_scratch1) (Memref.isWhole_whole _) (Memref.whole cc3_scratch2) (Memref.isWhole_whole _)
            (Memref.whole cc3_scratch3) (Memref.isWhole_whole _) cc3_scratch4 cc3_scratch5 cc3_scoped0 cc3_scoped1)
          fun _ => iprop(tdTv1 (F := F) d L qx qi (Tb 1 d) (Ib d)
            ∗ (atPos EB (bcell d (Cert.Proof.TileB1.cV L) (Cert.Proof.TileB1.jV L)) (1 + 1) (∅ : Finset ℕ) 0
                ∗ reached (D := ℕ) EB (bcell d (Cert.Proof.TileB1.cV L) (Cert.Proof.TileB1.jV L)) (1 + 1))
            ∗ scr3c1 (F := F) d L ∗ sem6c1 (F := F) d L
            ∗ ∃ W', ⌜∀ p ∈ W', p ∈ W ∨ p.2 = none ∨ p.2 = some (1 : Fin 3)⌝ ∗ owes (V d (Cert.Proof.TileB1.cV L) (Cert.Proof.TileB1.jV L)) O W')

/-- The eighty valued chunks are the worker's rows at contents related to the table and the index table as the launch asks. -/
def ChunksVal1 : Prop :=
  ∀ (d : Dev nD) (L : grid3.Coords) (Tx : S10000x128.Idx → F .f32) (Ix : S32x10496.Idx → BitVec 32),
    (bigSep Finset.univ fun tb : Fin k3_t1_loop.trips × Fin 2 =>
        (iprop(∃ f, (Cert.Proof.TileB1.oLoc d ↦[Cert.Proof.TileB1.oChunkSet L tb.1 tb.2]{fullShare} f)
          ∗ ⌜∀ x ∈ Cert.Proof.TileB1.oChunkSet L tb.1 tb.2, f x = gsumF Tx Ix x⌝) : sProp 𝕄))
      ⊢ (iprop(∃ fo, (out1 d ↦[(outRect (wid (cL1 L) (jL1 L))).set]{fullShare} fo) ∗ ⌜SumRel (wid (cL1 L) (jL1 L)) Tx Ix (rdO1 d fo)⌝) : sProp 𝕄)

set_option maxRecDepth 16384 in
set_option maxHeartbeats 1000000 in
/-- THE ASSEMBLY for call 0: the launch's statement of the body from the body's own. -/
theorem bodySpec1_of_tile (ht : TileStmt1 (F := F) Tb Ib) (he : ChunksVal1 (F := F)) : BodySpec1 (F := F) Tb Ib := by
  intro d L O W hO hOlev
  have hgo : goQ Tb Ib 1 d (cL1 L) (jL1 L)
      = goPay (tab1 d) (idxLoc d) (out1 d) (sh1 d) (fun _ n => (stageRect n).set) (fun w => (outRect w).set) (wrT1 d) (wrI d) (Tb 1 d) (Ib d) 1 d (cL1 L) (jL1 L) := rfl
  have htd : tdQ Tb Ib 1 d (cL1 L) (jL1 L)
      = tdPay (tab1 d) (idxLoc d) (out1 d) (sh1 d) (fun _ n => (stageRect n).set) (fun w => (outRect w).set) (wrT1 d) (wrI d) (rdO1 d) (wrS1 d) (Tb 1 d) (Ib d) 1 d (cL1 L) (jL1 L) := rfl
  rw [hgo, htd, (K (F := F)).scopedBufs_V facts d (Cert.Proof.TileB1.cV L) (Cert.Proof.TileB1.jV L),
    SparseCore.Cfg.scopedSems0_V (Val := Elt F) d (Cert.Proof.TileB1.cV L) (Cert.Proof.TileB1.jV L),
    Cert.Proof.TileB1.ownSems0_V (F := F) (U := UU) d L, Cert.Proof.TileB1.ownBufs_V (F := F) (U := UU) d L]
  unfold goPay tdPay barCarry
  iintro ⟨#Hlv, Hkit, ⟨Ht, Hi, %hok, ⟨%fo, Ho⟩, Hs, Hat, #Hre⟩, ⟨Hb0, Hb1, Hb2, Hbrest⟩, ⟨Hs0, Hs1, Hs2, Hs3, Hs4, Hs5, Hsrest⟩, HO⟩
  ihave Hk := (kit_conv1 (F := F) Tb d L) $$ [Hkit Hat]
  · isplitl [Hkit]; · iexact Hkit
    isplitl [Hat]; · iexact Hat
    iexact Hre
  ihave Hg := (go_conv1 (F := F) d L (tileShare (cL1 L) (jL1 L)) (Tb 1 d) (Ib d) fo) $$ [Ht Hi Ho Hs]
  · isplitl [Ht]; · iexact Ht
    isplitl [Hi]; · iexact Hi
    isplitl [Ho]; · iexact Ho
    iexact Hs
  icases Hg with ⟨Hgo, Hirest⟩
  iapply (wp_wand_r frame (wpE (defs₀ (F := F)) 𝒱₀ (V d (Cert.Proof.TileB1.cV L) (Cert.Proof.TileB1.jV L)) none) Set.univ)
  isplitl [Hk Hgo Hb0 Hb1 Hb2 Hs0 Hs1 Hs2 Hs3 Hs4 Hs5 HO]
  · iapply (ht d L (tileShare (cL1 L) (jL1 L)) (tileShare (cL1 L) (jL1 L)) fo O W hO hOlev (hin_conv1 (F := F) L (Ib d) hok))
    isplitr; · iexact Hlv
    isplitl [Hk]; · iexact Hk
    isplitl [Hgo]; · iexact Hgo
    isplitl [Hb0 Hb1 Hb2]
    · isplitl [Hb0]; · iexact Hb0
      isplitl [Hb1]; · iexact Hb1
      iexact Hb2
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    iexact HO
  iintro %_ ⟨Htd, ⟨Hat1, Hre1⟩, ⟨Hb0, Hb1, Hb2⟩, ⟨Hs0, Hs1, Hs2, Hs3, Hs4, Hs5⟩, HW⟩
  unfold tdTv1
  icases Htd with ⟨Ht, Hrow, Hch, Hsk, Hsd⟩
  ihave Ho := (he d L (Tb 1 d) (Ib d)) $$ Hch
  have hI : iprop((Cert.Proof.TileB1.iLoc d ↦[Cert.Proof.TileB1.iRowSet L]{tileShare (cL1 L) (jL1 L)} Ib d)
        ∗ (idxLoc d ↦[Finset.univ \ Cert.Proof.TileB1.iRowSet L]{tileShare (cL1 L) (jL1 L)} wrI d (Ib d)))
      ⊢ (idxLoc d ↦{tileShare (cL1 L) (jL1 L)} wrI d (Ib d) : sProp 𝕄) :=
    (pointsTo_split_subset (ℓ := idxLoc d) (q := tileShare (cL1 L) (jL1 L)) (f := wrI d (Ib d)) (Finset.subset_univ (Cert.Proof.TileB1.iRowSet L))).2
  have hSd : (Cert.Proof.TileB1.shLoc d (Cert.Proof.TileB1.cV L) ↦[Cert.Proof.TileB1.stripe (Cert.Proof.TileB1.jL L)]{Cert.Proof.TileB1.shKeep} Tb 1 d : sProp 𝕄)
      ⊢ (sh1 d (Cert.Proof.TileB1.cV L) ↦[(stageRect (jL1 L)).set]{Transfers.shareDrop fullShare 16} wrS1 d (Cert.Proof.TileB1.cV L) (Tb 1 d) : sProp 𝕄) := by
    rw [stripe1_eq]
  isplitl [Ht Hrow Hirest Ho Hsk Hsd Hat1 Hre1]
  · isplitl [Ht]; · iexact Ht
    isplitl [Hrow Hirest]
    · iapply hI
      isplitl [Hrow]; · iexact Hrow
      iexact Hirest
    isplitl [Ho]; · iexact Ho
    isplitl [Hsk]; · iexact Hsk
    isplitl [Hsd]
    · iapply hSd; iexact Hsd
    isplitl [Hat1]; · iexact Hat1
    iexact Hre1
  isplitl [Hb0 Hb1 Hb2 Hbrest]
  · isplitl [Hb0]; · iexact Hb0
    isplitl [Hb1]; · iexact Hb1
    isplitl [Hb2]; · iexact Hb2
    iexact Hbrest
  isplitl [Hs0 Hs1 Hs2 Hs3 Hs4 Hs5 Hsrest]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsrest
  iexact HW

end Cert.Proof.KB

end
-- ==== Proof.BodyOwnC2K.lean ====
/-
  A subcore's own semaphores and buffers, with the ones its task uses picked out.

  The launch hands a vector subcore every semaphore scoped to it at zero and every buffer it owns at some contents.
  The gather-sum task uses six of the semaphores (the two of its scoped regions, the two gather slots and the two
  write-out slots) and three of the buffers (the index, row and result scratches); the rest is carried along.
-/
import proofs.«205366_g3083786518796_cont_9to1_852_38_alg».proof.Proof.BodyDefsC2K
import proofs.«205366_g3083786518796_cont_9to1_852_38_alg».proof.Proof.BodyLemmasC2K

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
variable [FloatOps F]
variable {U : Type} [URA U] [CountersIn U]

local notation "𝕄" => MT nD τ sig (HIx 3) (Elt F) ℕ U ℕ

variable (d : Dev nD) (L : grid5.Coords)

theorem cell_mem (sm : DmaSem sig) (h : (SemLoc.dma sm : SemLoc sig).isScoped .scVector = true) :
    cell d L sm ∈ ownCells (V d (cV L) (jV L)) := (mem_ownCells (g := cell d L sm)).mpr ⟨rfl, h⟩

theorem cell_ne {sm sm' : DmaSem sig} (h : sm ≠ sm') : cell d L sm ≠ cell d L sm' :=
  fun e => h (SemLoc.dma.inj (Prod.mk.inj e).2)

/-- The subcore's scoped semaphores at zero: the six its task uses, and the rest. -/
theorem ownSems0_V :
    (ownSems0 (V d (cV L) (jV L)) : sProp 𝕄)
      = iprop(semVal (cell d L cc5_scoped0.sem) 0 ∗ semVal (cell d L cc5_scoped1.sem) 0 ∗ semVal (cell d L g0sem) 0 ∗ semVal (cell d L g1sem) 0
          ∗ semVal (cell d L o0sem) 0 ∗ semVal (cell d L o1sem) 0
          ∗ bigSep (((((((ownCells (V d (cV L) (jV L))).erase (cell d L cc5_scoped0.sem)).erase (cell d L cc5_scoped1.sem)).erase (cell d L g0sem)).erase (cell d L g1sem)).erase
              (cell d L o0sem)).erase (cell d L o1sem)) fun g => semVal g 0) := by
  unfold SparseCore.Cfg.ownSems0
  rw [SparseCore.bigSep_erase' (cell_mem d L cc5_scoped0.sem (by decide)),
    SparseCore.bigSep_erase' (Finset.mem_erase.mpr ⟨cell_ne d L (by decide), cell_mem d L cc5_scoped1.sem (by decide)⟩),
    SparseCore.bigSep_erase' (Finset.mem_erase.mpr ⟨cell_ne d L (by decide), Finset.mem_erase.mpr ⟨cell_ne d L (by decide), cell_mem d L g0sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L g1sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L o0sem (by decide)⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide),
        Finset.mem_erase.mpr ⟨cell_ne d L (by decide), cell_mem d L o1sem (by decide)⟩⟩⟩⟩⟩)]

theorem scratch_mem (b : Ref sig .scVector) (h : ((Proc.scVector (cV L) (jV L)).devRef b : DevRef τ sig).owner = .proc (Proc.scVector (cV L) (jV L))) :
    (Proc.scVector (cV L) (jV L)).devRef b ∈ ownRefs (τ := τ) (sig := sig) (.scVector (cV L) (jV L)) :=
  SparseCore.Cfg.mem_ownRefs_of_owner h

/-- The subcore's own buffers at some contents: the three scratches its task uses, and the rest. -/
theorem ownBufs_V :
    (ownBufs (V d (cV L) (jV L)) : sProp 𝕄)
      = iprop((∃ f, (V d (cV L) (jV L)).loc cc5_scratch0 ↦{fullShare} f) ∗ (∃ f, (V d (cV L) (jV L)).loc cc5_scratch1 ↦{fullShare} f)
          ∗ (∃ f, (V d (cV L) (jV L)).loc cc5_scratch2 ↦{fullShare} f)
          ∗ bigSep ((((ownRefs (τ := τ) (.scVector (cV L) (jV L))).erase ((Proc.scVector (cV L) (jV L)).devRef cc5_scratch0)).erase
              ((Proc.scVector (cV L) (jV L)).devRef cc5_scratch1)).erase ((Proc.scVector (cV L) (jV L)).devRef cc5_scratch2))
              fun b => iprop(∃ f, ((d, b) : Loc nD τ sig) ↦{fullShare} f)) := by
  unfold SparseCore.Cfg.ownBufs
  rw [SparseCore.bigSep_erase' (scratch_mem L cc5_scratch0 rfl),
    SparseCore.bigSep_erase' (Finset.mem_erase.mpr ⟨fun e => absurd (Proc.devRef_injective _ e) (show (cc5_scratch1 : Ref sig .scVector) ≠ cc5_scratch0 by decide), scratch_mem L cc5_scratch1 rfl⟩),
    SparseCore.bigSep_erase' (Finset.mem_erase.mpr ⟨fun e => absurd (Proc.devRef_injective _ e) (show (cc5_scratch2 : Ref sig .scVector) ≠ cc5_scratch1 by decide),
      Finset.mem_erase.mpr ⟨fun e => absurd (Proc.devRef_injective _ e) (show (cc5_scratch2 : Ref sig .scVector) ≠ cc5_scratch0 by decide), scratch_mem L cc5_scratch2 rfl⟩⟩)]

end Cert.Proof.TileB2

end
-- ==== Proof.BodyCoverC2K.lean ====
/-
  A worker's output rows as its eighty result chunks.

  Trip t (of forty) and slot b (of two) of subcore L write the four rows 320·w + 8·t + 4·b … + 3 of the padded
  output, w = 2·(L 1) + (L 0) the worker's number.  For a fixed worker these eighty row ranges are pairwise
  disjoint and their union is the worker's 320 rows 320·w … 320·w + 319; so owning the worker's rows outright is
  owning the eighty chunks, and eighty chunks each at some contents join into the rows at some contents.
-/
import proofs.«205366_g3083786518796_cont_9to1_852_38_alg».proof.Proof.BodyDefsC2K
import proofs.«205366_g3083786518796_cont_9to1_852_38_alg».proof.Proof.BodyLemmasC2K
import proofs.«205366_g3083786518796_cont_9to1_852_38_alg».proof.Proof.ScPayK

noncomputable section

namespace Cert.Proof.TileB2

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}
variable [FloatOps F]
variable {U : Type} [URA U] [CountersIn U]

local notation "𝕄" => MT nD τ sig (HIx 3) (Elt F) ℕ U ℕ

/-- The loop runs forty trips. -/
theorem trips_eq : k5_t1_loop.trips = 40 := by decide

theorem oChunkSet_eq (L : grid5.Coords) (t : Fin k5_t1_loop.trips) (b : Fin 2) :
    oChunkSet L t b = (Rect.unit (s := S10240x128) (k5_off20 L t (BitVec.ofNat 32 b.val)) S4x128.size (k5_off20_inb L t b)).set :=
  View.set_slice_whole _ _

/-- A chunk is four whole rows. -/
theorem mem_oChunkSet (L : grid5.Coords) (t : Fin k5_t1_loop.trips) (b : Fin 2) (x : S10240x128.Idx) :
    x ∈ oChunkSet L t b ↔ 640 * (L 1).val + 320 * (L 0).val + 8 * t.val + 4 * b.val ≤ (x 0 : ℕ)
      ∧ (x 0 : ℕ) < 640 * (L 1).val + 320 * (L 0).val + 8 * t.val + 4 * b.val + 4 := by
  rw [oChunkSet_eq, Rect.mem_set_unit, k5_off20_eq]
  constructor
  · intro h; have := h 0; simpa using this
  · intro h a
    match a with
    | 0 => simpa using h
    | 1 => exact ⟨Nat.zero_le _, by simpa using (x 1).isLt⟩

/-- A worker's rows. -/
theorem mem_outRect (w : Fin 32) (x : S10240x128.Idx) :
    x ∈ (Cert.Proof.KB.outRect w).set ↔ 320 * w.val ≤ (x 0 : ℕ) ∧ (x 0 : ℕ) < 320 * w.val + 320 := by
  unfold Cert.Proof.KB.outRect
  rw [Rect.mem_set_unit]
  constructor
  · intro h; have := h 0; simpa using this
  · intro h a
    match a with
    | 0 => simpa using h
    | 1 => exact ⟨Nat.zero_le _, by simpa using (x 1).isLt⟩

theorem oChunks_disjoint (L : grid5.Coords) :
    ∀ tb ∈ (Finset.univ : Finset (Fin k5_t1_loop.trips × Fin 2)), ∀ tb' ∈ (Finset.univ : Finset (Fin k5_t1_loop.trips × Fin 2)),
      tb ≠ tb' → Disjoint (oChunkSet L tb.1 tb.2) (oChunkSet L tb'.1 tb'.2) := by
  rintro ⟨t, b⟩ - ⟨t', b'⟩ - hne
  rw [Finset.disjoint_left]
  intro x h h'
  rw [mem_oChunkSet] at h h'
  have hd : t.val ≠ t'.val ∨ b.val ≠ b'.val := by
    by_contra hh
    have hh' := not_or.mp hh
    exact hne (Prod.ext (Fin.ext (not_not.mp hh'.1)) (Fin.ext (not_not.mp hh'.2)))
  have hb := b.isLt
  have hb' := b'.isLt
  dsimp only at h h'
  omega

theorem oChunks_cover (L : grid5.Coords) (w : Fin 32) (hw : w.val = 2 * (L 1).val + (L 0).val) :
    (Finset.univ : Finset (Fin k5_t1_loop.trips × Fin 2)).biUnion (fun tb => oChunkSet L tb.1 tb.2) = (Cert.Proof.KB.outRect w).set := by
  ext x
  simp only [Finset.mem_biUnion, Finset.mem_univ, true_and]
  rw [mem_outRect]
  constructor
  · rintro ⟨⟨t, b⟩, h⟩
    rw [mem_oChunkSet] at h
    have ht : t.val < 40 := lt_of_lt_of_eq t.isLt trips_eq
    have hb := b.isLt
    dsimp only at h
    omega
  · intro h
    refine ⟨(⟨((x 0 : ℕ) - 320 * w.val) / 8, by rw [trips_eq]; omega⟩, ⟨(((x 0 : ℕ) - 320 * w.val) % 8) / 4, by omega⟩), (mem_oChunkSet _ _ _ _).mpr ?_⟩
    dsimp only
    omega

/-- A worker's rows owned outright are its eighty chunks. -/
theorem oPts_chunks (d : Dev nD) (L : grid5.Coords) (w : Fin 32) (hw : w.val = 2 * (L 1).val + (L 0).val) (f : Buf (Elt F) (oLoc d)) :
    (oLoc d ↦[(Cert.Proof.KB.outRect w).set]{fullShare} f : sProp 𝕄)
      = bigSep Finset.univ fun tb : Fin k5_t1_loop.trips × Fin 2 => oLoc d ↦[oChunkSet L tb.1 tb.2]{fullShare} f := by
  rw [← pointsTo_biUnion Finset.univ (ℓ := oLoc d) (fun tb : Fin k5_t1_loop.trips × Fin 2 => oChunkSet L tb.1 tb.2) (oChunks_disjoint L),
    oChunks_cover L w hw]

/-- Eighty chunks, each at some contents, are the worker's rows at some contents. -/
theorem oChunks_join (d : Dev nD) (L : grid5.Coords) (w : Fin 32) (hw : w.val = 2 * (L 1).val + (L 0).val) :
    (bigSep Finset.univ fun tb : Fin k5_t1_loop.trips × Fin 2 => iprop(∃ f, oLoc d ↦[oChunkSet L tb.1 tb.2]{fullShare} f))
      ⊢ (iprop(∃ f, oLoc d ↦[(Cert.Proof.KB.outRect w).set]{fullShare} f) : sProp 𝕄) := by
  refine (bigSep_exists_pi Finset.univ (fun (tb : Fin k5_t1_loop.trips × Fin 2) (f : Buf (Elt F) (oLoc d)) =>
    (oLoc d ↦[oChunkSet L tb.1 tb.2]{fullShare} f : sProp 𝕄))).trans ?_
  iintro ⟨%fs, H⟩
  ihave H' := (pointsTo_biUnion_join Finset.univ (fun tb : Fin k5_t1_loop.trips × Fin 2 => oChunkSet L tb.1 tb.2) fs
    (fs (⟨0, by rw [trips_eq]; omega⟩, 0)) (oChunks_disjoint L)) $$ H
  icases H' with ⟨%g, -, Hg⟩
  rw [oChunks_cover L w hw]
  iexists g; iexact Hg

end Cert.Proof.TileB2

end
-- ==== Proof.ScTileParts2K.lean ====
/-
  The parts of a vector subcore's task obligation that do not depend on the kernel's body: the reduction of the launch's
  obligation to a statement about the body on one subcore; the tile's scoped storage split into what the task uses and
  the rest; the launch's barrier kit in the body's indexing; the task's operands cut the way the body takes them (the
  index table's row out of the whole table, the output rows as the eighty chunks, the staged rows as the stripe) and
  the results put back.
-/
import proofs.«205366_g3083786518796_cont_9to1_852_38_alg».proof.Proof.ScPayK
import proofs.«205366_g3083786518796_cont_9to1_852_38_alg».proof.Proof.BodyDefsC2K
import proofs.«205366_g3083786518796_cont_9to1_852_38_alg».proof.Proof.BodyLemmasC2K
import proofs.«205366_g3083786518796_cont_9to1_852_38_alg».proof.Proof.BodyOwnC2K
import proofs.«205366_g3083786518796_cont_9to1_852_38_alg».proof.Proof.BodyCoverC2K
import proofs.«205366_g3083786518796_cont_9to1_852_38_alg».proof.Proof.ScBarPayK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-! ## Call 0 -/

/-- The subcore's coordinates as the launch payloads index them. -/
abbrev cL2 (L : grid5.Coords) : Fin 2 := Fin.cast (by decide) (L 0)
abbrev jL2 (L : grid5.Coords) : Fin 16 := Fin.cast (by decide) (L 1)

theorem defs₀_vector2 (c : Fin τ.nSC) (s : Fin τ.nSub) :
    defs₀ (F := F) (.scVector c s) 5 ()
      = SparseCore.onTile hcore5 hsub5 (fun c s => cc5__sc_gather_sum (Cert.Proof.TileB2.coordsV c s)
          (Memref.whole main_v14_0_scv) (Memref.isWhole_whole _) (Memref.whole main_v7_scv) (Memref.isWhole_whole _)
          (Memref.whole main_v15_scv) (Memref.isWhole_whole _) (Memref.whole cc5_scratch0) (Memref.isWhole_whole _)
          (Memref.whole cc5_scratch1) (Memref.isWhole_whole _) (Memref.whole cc5_scratch2) (Memref.isWhole_whole _)
          (Memref.whole cc5_scratch3) (Memref.isWhole_whole _) cc5_scratch4 cc5_scratch5 cc5_scoped0 cc5_scoped1) ⟨⟩ c s := rfl

/-- THE BODY'S STATEMENT for call 0, over the launch's payloads: the kernel on vector subcore `L`, from its barrier kit, its
    task's operands, its scoped storage and what it owes, to the task's results. -/
def BodySpec2 : Prop :=
  ∀ (d : Dev nD) (L : grid5.Coords) (O : CellTallies nD τ sig (HIx 3)) (W : Waits sig (HIx 3)), (∀ g, O g none = 0) →
    (∀ g ι, 0 < O g ι → 8 * (2 : Fin 3).val + 6 ≤ (K (F := F)).lev g ι) →
    iprop(levAts (K (F := F)).L (K (F := F)).lev ∗ bkit (F := F) Tb 2 d (Cert.Proof.TileB2.cV L) (Cert.Proof.TileB2.jV L)
        ∗ goQ Tb Ib 2 d (cL2 L) (jL2 L)
        ∗ scopedBufs (V d (Cert.Proof.TileB2.cV L) (Cert.Proof.TileB2.jV L)) ∗ scopedSems0 (V d (Cert.Proof.TileB2.cV L) (Cert.Proof.TileB2.jV L))
        ∗ owes (V d (Cert.Proof.TileB2.cV L) (Cert.Proof.TileB2.jV L)) (O + oxV 2 d (Cert.Proof.TileB2.cV L)) W)
      ⊢ wp frame (wpE (defs₀ (F := F)) 𝒱₀ (V d (Cert.Proof.TileB2.cV L) (Cert.Proof.TileB2.jV L)) none) Set.univ
          (cc5__sc_gather_sum L (Memref.whole main_v14_0_scv) (Memref.isWhole_whole _) (Memref.whole main_v7_scv) (Memref.isWhole_whole _)
            (Memref.whole main_v15_scv) (Memref.isWhole_whole _) (Memref.whole cc5_scratch0) (Memref.isWhole_whole _)
            (Memref.whole cc5_scratch1) (Memref.isWhole_whole _) (Memref.whole cc5_scratch2) (Memref.isWhole_whole _)
            (Memref.whole cc5_scratch3) (Memref.isWhole_whole _) cc5_scratch4 cc5_scratch5 cc5_scoped0 cc5_scoped1)
          fun _ => iprop(tdQ Tb Ib 2 d (cL2 L) (jL2 L)
            ∗ scopedBufs (V d (Cert.Proof.TileB2.cV L) (Cert.Proof.TileB2.jV L)) ∗ scopedSems0 (V d (Cert.Proof.TileB2.cV L) (Cert.Proof.TileB2.jV L))
            ∗ ∃ W', ⌜∀ p ∈ W', p ∈ W ∨ p.2 = none ∨ p.2 = some (2 : Fin 3)⌝ ∗ owes (V d (Cert.Proof.TileB2.cV L) (Cert.Proof.TileB2.jV L)) O W')

set_option maxRecDepth 16384 in
/-- The launch's obligation for call 0 from the body's statement. -/
theorem tileObl2_of_body (hbody : BodySpec2 (F := F) Tb Ib) : (K (F := F)).TileObl (D (F := F)) 𝒱 (P (F := F) Tb Ib) v₀ 2 := by
  intro d c i O W hO hOlev _
  have hci : ((K (F := F)).core 2 c).val < grid5.bound 0 ∧ ((K (F := F)).sub 2 i).val < grid5.bound 1 := ⟨c.isLt, i.isLt⟩
  rw [show (P (F := F) Tb Ib).ox 2 (V d ((K (F := F)).core 2 c) ((K (F := F)).sub 2 i)) = oxV 2 d ((K (F := F)).core 2 c) from rfl,
    show (P (F := F) Tb Ib).x 2 (V d ((K (F := F)).core 2 c) ((K (F := F)).sub 2 i)) = bkit (F := F) Tb 2 d ((K (F := F)).core 2 c) ((K (F := F)).sub 2 i) from rfl]
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact hbody d (Cert.Proof.TileB2.coordsV ⟨_, hci.1⟩ ⟨_, hci.2⟩) O W hO hOlev

/-! ## The scoped storage: the three scratches and six semaphores the task uses, and the rest -/

/-- A vector subcore's scoped buffers and semaphores, as the launch hands them: the task's three scratches at some
    contents, its six semaphores at zero, and the rest of each. -/
theorem scoped_split2 (d : Dev nD) (L : grid5.Coords) :
    (iprop(scopedBufs (V d (Cert.Proof.TileB2.cV L) (Cert.Proof.TileB2.jV L)) ∗ scopedSems0 (V d (Cert.Proof.TileB2.cV L) (Cert.Proof.TileB2.jV L))) : sProp 𝕄)
      = iprop(ownBufs (V d (Cert.Proof.TileB2.cV L) (Cert.Proof.TileB2.jV L)) ∗ ownSems0 (V d (Cert.Proof.TileB2.cV L) (Cert.Proof.TileB2.jV L))) := by
  rw [(K (F := F)).scopedBufs_V facts d (Cert.Proof.TileB2.cV L) (Cert.Proof.TileB2.jV L),
    SparseCore.Cfg.scopedSems0_V (Val := Elt F) d (Cert.Proof.TileB2.cV L) (Cert.Proof.TileB2.jV L)]

/-! ## The barrier kit, in the body's indexing -/

/-- The barrier kit as the kernel's body takes it, over any schedule: every cell's invariant, the tile's duty token in
    every cell's round, that every cell has reached the round, the tile's own position, and the credit for its round. -/
def kitR2 (Rd : Rounds.Schedule (GSem nD τ sig) ℕ 𝕄) (r : ℕ) (q : Fin 3) (d : Dev nD) (c : Fin τ.nSC) (i : Fin τ.nSub) : sProp 𝕄 :=
  iprop((∃ κ : GSem nD τ sig → ℕ, bigSep Finset.univ fun j : Fin (grid5.bound 1) =>
      cellInv EB Rd (κ (bcell d c (j.castLE hsub5))) (bcell d c (j.castLE hsub5)))
    ∗ (bigSep Finset.univ fun j : Fin (grid5.bound 1) => dutyTok EB (bcell d c (j.castLE hsub5)) r i.val)
    ∗ (bigSep Finset.univ fun j : Fin (grid5.bound 1) => reached (D := ℕ) EB (bcell d c (j.castLE hsub5)) r)
    ∗ atPos EB (bcell d c i) r (∅ : Finset ℕ) 0
    ∗ cred (tallyAt (bcell d c i) (some q) (grid5.bound 1)))

/-- The launch's kit for call 0 with the tile's position and the sixteen "reached" its operands carry is the body's kit. -/
theorem kit_conv2 (d : Dev nD) (L : grid5.Coords) :
    iprop(bkit (F := F) Tb 2 d (Cert.Proof.TileB2.cV L) (Cert.Proof.TileB2.jV L)
        ∗ atPos EB (bcell d ((cL2 L).castLE (by decide)) ((jL2 L).castLE (by decide))) 2 ∅ 0
        ∗ bigSep Finset.univ fun j : Fin 16 => reached EB (bcell d ((cL2 L).castLE (by decide)) (j.castLE (by decide))) 2)
      ⊢ kitR2 (F := F) (bRd (F := F) Tb) 2 2 d (Cert.Proof.TileB2.cV L) (Cert.Proof.TileB2.jV L) := by
  unfold bkit kitR2
  iintro ⟨⟨Hinv, Htok, Hcred⟩, Hat, Hre⟩
  isplitl [Hinv]; · iexact Hinv
  isplitl [Htok]; · iexact Htok
  isplitl [Hre]; · iexact Hre
  isplitl [Hat]; · iexact Hat
  iexact Hcred

/-! ## The task's operands, cut the way the body takes them, and its results put back -/

/-- Tile `(c, i)`'s worker number is the body's. -/
theorem wid_eq2 (L : grid5.Coords) : (wid (cL2 L) (jL2 L)).val = 2 * (L 1).val + (L 0).val := rfl

/-- THE OPERANDS: the table's token, the index table's token (the worker's row out of it, the rest kept), the worker's
    output rows as its eighty chunks, and the staged rows as the stripe. -/
theorem go_conv2 (d : Dev nD) (L : grid5.Coords) (q : PosShare TreeShare) (Tx : S10000x128.Idx → F .f32) (Ix : S32x10496.Idx → BitVec 32)
    (fo : S10240x128.Idx → F .f32) :
    iprop((tab2 d ↦{q} wrT2 d Tx) ∗ (idxLoc d ↦{q} wrI d Ix) ∗ (out2 d ↦[(outRect (wid (cL2 L) (jL2 L))).set]{fullShare} fo)
        ∗ (∃ fs, sh2 d ((cL2 L).castLE (by decide)) ↦[(stageRect (jL2 L)).set]{fullShare} fs))
      ⊢ (iprop(Cert.Proof.TileB2.goT d L q q Tx Ix fo
          ∗ (idxLoc d ↦[Finset.univ \ Cert.Proof.TileB2.iRowSet L]{q} wrI d Ix)) : sProp 𝕄) := by
  unfold Cert.Proof.TileB2.goT
  have hI : (idxLoc d ↦{q} wrI d Ix : sProp 𝕄)
      ⊢ iprop((Cert.Proof.TileB2.iLoc d ↦[Cert.Proof.TileB2.iRowSet L]{q} Ix) ∗ (idxLoc d ↦[Finset.univ \ Cert.Proof.TileB2.iRowSet L]{q} wrI d Ix)) :=
    (pointsTo_split_subset (ℓ := idxLoc d) (q := q) (f := wrI d Ix) (Finset.subset_univ (Cert.Proof.TileB2.iRowSet L))).1
  have hO : (out2 d ↦[(outRect (wid (cL2 L) (jL2 L))).set]{fullShare} fo : sProp 𝕄)
      ⊢ bigSep Finset.univ fun tb : Fin k5_t1_loop.trips × Fin 2 => (Cert.Proof.TileB2.oLoc d ↦[Cert.Proof.TileB2.oChunkSet L tb.1 tb.2]{fullShare} fo : sProp 𝕄) :=
    Entails.of_eq (Cert.Proof.TileB2.oPts_chunks (F := F) (U := UU) d L (wid (cL2 L) (jL2 L)) (wid_eq2 L) fo)
  iintro ⟨Ht, Hi, Ho, ⟨%fs, Hs⟩⟩
  ihave Hi' := hI $$ Hi
  icases Hi' with ⟨Hrow, Hrest⟩
  isplitr [Hrest]
  · isplitl [Ht]; · iexact Ht
    isplitl [Hrow]; · iexact Hrow
    isplitl [Ho]; · iapply hO; iexact Ho
    iexists fs
    rw [stripe2_eq]
    iexact Hs
  · iexact Hrest

/-- THE RESULTS (their frame): the tokens back, the index table's token whole again, the eighty chunks as the worker's
    rows at some contents, the read token of the whole shared table and the kept remainder of the staged rows. -/
theorem td_conv2 (d : Dev nD) (L : grid5.Coords) (q : PosShare TreeShare) (Tx : S10000x128.Idx → F .f32) (Ix : S32x10496.Idx → BitVec 32) :
    iprop(Cert.Proof.TileB2.tdT d L q q Tx Ix ∗ (idxLoc d ↦[Finset.univ \ Cert.Proof.TileB2.iRowSet L]{q} wrI d Ix))
      ⊢ (iprop((tab2 d ↦{q} wrT2 d Tx) ∗ (idxLoc d ↦{q} wrI d Ix)
          ∗ (∃ fo, out2 d ↦[(outRect (wid (cL2 L) (jL2 L))).set]{fullShare} fo)
          ∗ (sh2 d ((cL2 L).castLE (by decide)) ↦{Transfers.shareTok fullShare 16 (jL2 L)} wrS2 d ((cL2 L).castLE (by decide)) Tx)
          ∗ (sh2 d ((cL2 L).castLE (by decide)) ↦[(stageRect (jL2 L)).set]{Transfers.shareDrop fullShare 16} wrS2 d ((cL2 L).castLE (by decide)) Tx)) : sProp 𝕄) := by
  unfold Cert.Proof.TileB2.tdT
  have hI : iprop((Cert.Proof.TileB2.iLoc d ↦[Cert.Proof.TileB2.iRowSet L]{q} Ix) ∗ (idxLoc d ↦[Finset.univ \ Cert.Proof.TileB2.iRowSet L]{q} wrI d Ix))
      ⊢ (idxLoc d ↦{q} wrI d Ix : sProp 𝕄) :=
    (pointsTo_split_subset (ℓ := idxLoc d) (q := q) (f := wrI d Ix) (Finset.subset_univ (Cert.Proof.TileB2.iRowSet L))).2
  iintro ⟨⟨Ht, Hrow, Ho, Hsk, Hsd⟩, Hrest⟩
  isplitl [Ht]; · iexact Ht
  isplitl [Hrow Hrest]
  · iapply hI
    isplitl [Hrow]; · iexact Hrow
    iexact Hrest
  isplitl [Ho]
  · iapply (Cert.Proof.TileB2.oChunks_join (F := F) (U := UU) d L (wid (cL2 L) (jL2 L)) (wid_eq2 L)); iexact Ho
  isplitl [Hsk]; · iexact Hsk
  rw [← stripe2_eq]
  iexact Hsd

/-- The worker's row of the index table, read through the kernel's view of it: entry `x` of the row is the table's
    entry `(w, x)`, `w` the worker's number. -/
theorem iRow_emb2 (L : grid5.Coords) (x : S10496.Idx) (hx : (x 0).val < 10496) :
    (Cert.Proof.TileB2.iRowK L).view.emb x = ValueIdx.ix2 (wid (cL2 L) (jL2 L)) (⟨(x 0).val, hx⟩ : Fin 10496) := by
  have hk : Shape.reshapeEquiv (s := S1x10496) (s' := S10496) (squeezes_S1x10496_S10496).numel_eq x
      = (ValueIdx.ix2 (0 : Fin 1) (⟨(x 0).val, hx⟩ : Fin 10496) : S1x10496.Idx) :=
    Shape.reshapeEquiv_eq_of_rowMajor _ (by
      show ((⟨2, ![1, 10496]⟩ : Shape).rowMajor (ValueIdx.ix2 (0 : Fin 1) (⟨(x 0).val, hx⟩ : Fin 10496)) : ℕ) = ((⟨1, ![10496]⟩ : Shape).rowMajor x : ℕ)
      rw [Shape.rowMajor_val_two, Shape.rowMajor_val_one]; simp)
  show (Rect.unit (s := S32x10496) (k5_off1 L) S1x10496.size (k5_off1_inb L)).emb
    (Shape.reshapeEquiv (s := S1x10496) (s' := S10496) (squeezes_S1x10496_S10496).numel_eq x) = _
  rw [hk]
  funext a
  refine Fin.ext ?_
  have h1 := k5_off1_eq L
  match a with
  | ⟨0, _⟩ =>
    show (k5_off1 L) 0 + 1 * 0 = 2 * (L 1).val + (L 0).val
    rw [h1]; simp
  | ⟨1, _⟩ =>
    show (k5_off1 L) 1 + 1 * (x 0).val = (x 0).val
    rw [h1]; simp

/-- Every entry of the worker's row names a row of the table, in the form the kernel's body asks it. -/
theorem hin_conv2 (L : grid5.Coords) (Ix : S32x10496.Idx → BitVec 32) (hok : IdxOk (wid (cL2 L) (jL2 L)) Ix) :
    ∀ x, ((Cert.Proof.TileB2.iRowK L).view.read (Elt F) Ix x).toNat < 10000 := by
  intro x
  rw [View.read_apply, iRow_emb2 L x (x 0).isLt]
  exact hok _

end Cert.Proof.KB

end
-- ==== Proof.ScTileAsm2K.lean ====
/-
  The kernel's body on one subcore, stated over the body's own vocabulary with each result chunk at the neighbour sums,
  gives the statement the launch asks over its payloads: the kit, the operands and the scoped storage are cut the way the
  body takes them, the rest rides along beside the run, and the results are put back — the eighty chunks as the worker's
  rows at the sums.
-/
import proofs.«205366_g3083786518796_cont_9to1_852_38_alg».proof.Proof.ScTileParts2K
import proofs.«205366_g3083786518796_cont_9to1_852_38_alg».proof.Proof.GSumK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-- What the body hands back, each result chunk at the neighbour sums of the table over the index table. -/
def tdTv2 (d : Dev nD) (L : grid5.Coords) (qx qi : PosShare TreeShare) (Tx : S10000x128.Idx → F .f32) (Ix : S32x10496.Idx → BitVec 32) : sProp 𝕄 :=
  iprop((Cert.Proof.TileB2.xLoc d ↦{qx} Tx) ∗ (Cert.Proof.TileB2.iLoc d ↦[Cert.Proof.TileB2.iRowSet L]{qi} Ix)
    ∗ (bigSep Finset.univ fun tb : Fin k5_t1_loop.trips × Fin 2 =>
        iprop(∃ f, (Cert.Proof.TileB2.oLoc d ↦[Cert.Proof.TileB2.oChunkSet L tb.1 tb.2]{fullShare} f)
          ∗ ⌜∀ x ∈ Cert.Proof.TileB2.oChunkSet L tb.1 tb.2, f x = gsumF Tx Ix x⌝))
    ∗ (Cert.Proof.TileB2.shLoc d (Cert.Proof.TileB2.cV L) ↦{Cert.Proof.TileB2.shTok (Cert.Proof.TileB2.jV L)} Tx)
    ∗ (Cert.Proof.TileB2.shLoc d (Cert.Proof.TileB2.cV L) ↦[Cert.Proof.TileB2.stripe (Cert.Proof.TileB2.jL L)]{Cert.Proof.TileB2.shKeep} Tx))

/-- The three scratches of the task, each whole at some contents; its six semaphores at zero. -/
abbrev scr3c2 (d : Dev nD) (L : grid5.Coords) : sProp 𝕄 :=
  iprop((∃ f, (V d (Cert.Proof.TileB2.cV L) (Cert.Proof.TileB2.jV L)).loc cc5_scratch0 ↦{fullShare} f)
    ∗ (∃ f, (V d (Cert.Proof.TileB2.cV L) (Cert.Proof.TileB2.jV L)).loc cc5_scratch1 ↦{fullShare} f)
    ∗ (∃ f, (V d (Cert.Proof.TileB2.cV L) (Cert.Proof.TileB2.jV L)).loc cc5_scratch2 ↦{fullShare} f))
abbrev sem6c2 (d : Dev nD) (L : grid5.Coords) : sProp 𝕄 :=
  iprop(semVal (Cert.Proof.TileB2.cell d L cc5_scoped0.sem) 0 ∗ semVal (Cert.Proof.TileB2.cell d L cc5_scoped1.sem) 0
    ∗ semVal (Cert.Proof.TileB2.cell d L Cert.Proof.TileB2.g0sem) 0 ∗ semVal (Cert.Proof.TileB2.cell d L Cert.Proof.TileB2.g1sem) 0
    ∗ semVal (Cert.Proof.TileB2.cell d L Cert.Proof.TileB2.o0sem) 0 ∗ semVal (Cert.Proof.TileB2.cell d L Cert.Proof.TileB2.o1sem) 0)

/-- THE BODY'S STATEMENT for call 0 in the body's own vocabulary, over the launch's barrier schedule, with the valued post. -/
def TileStmt2 : Prop :=
  ∀ (d : Dev nD) (L : grid5.Coords) (qx qi : PosShare TreeShare) (fo : S10240x128.Idx → F .f32)
    (O : CellTallies nD τ sig (HIx 3)) (W : Waits sig (HIx 3)), (∀ g, O g none = 0) →
    (∀ g ι, 0 < O g ι → 8 * (2 : Fin 3).val + 6 ≤ (K (F := F)).lev g ι) →
    (∀ x, ((Cert.Proof.TileB2.iRowK L).view.read (Elt F) (Ib d) x).toNat < 10000) →
    iprop(levAts (K (F := F)).L (K (F := F)).lev ∗ kitR2 (F := F) (bRd (F := F) Tb) 2 2 d (Cert.Proof.TileB2.cV L) (Cert.Proof.TileB2.jV L)
        ∗ Cert.Proof.TileB2.goT d L qx qi (Tb 2 d) (Ib d) fo ∗ scr3c2 (F := F) d L ∗ sem6c2 (F := F) d L
        ∗ owes (V d (Cert.Proof.TileB2.cV L) (Cert.Proof.TileB2.jV L)) (O + oxV 2 d (Cert.Proof.TileB2.cV L)) W)
      ⊢ wp frame (wpE (defs₀ (F := F)) 𝒱₀ (V d (Cert.Proof.TileB2.cV L) (Cert.Proof.TileB2.jV L)) none) Set.univ
          (cc5__sc_gather_sum L (Memref.whole main_v14_0_scv) (Memref.isWhole_whole _) (Memref.whole main_v7_scv) (Memref.isWhole_whole _)
            (Memref.whole main_v15_scv) (Memref.isWhole_whole _) (Memref.whole cc5_scratch0) (Memref.isWhole_whole _)
            (Memref.whole cc5_scratch1) (Memref.isWhole_whole _) (Memref.whole cc5_scratch2) (Memref.isWhole_whole _)
            (Memref.whole cc5_scratch3) (Memref.isWhole_whole _) cc5_scratch4 cc5_scratch5 cc5_scoped0 cc5_scoped1)
          fun _ => iprop(tdTv2 (F := F) d L qx qi (Tb 2 d) (Ib d)
            ∗ (atPos EB (bcell d (Cert.Proof.TileB2.cV L) (Cert.Proof.TileB2.jV L)) (2 + 1) (∅ : Finset ℕ) 0
                ∗ reached (D := ℕ) EB (bcell d (Cert.Proof.TileB2.cV L) (Cert.Proof.TileB2.jV L)) (2 + 1))
            ∗ scr3c2 (F := F) d L ∗ sem6c2 (F := F) d L
            ∗ ∃ W', ⌜∀ p ∈ W', p ∈ W ∨ p.2 = none ∨ p.2 = some (2 : Fin 3)⌝ ∗ owes (V d (Cert.Proof.TileB2.cV L) (Cert.Proof.TileB2.jV L)) O W')

/-- The eighty valued chunks are the worker's rows at contents related to the table and the index table as the launch asks. -/
def ChunksVal2 : Prop :=
  ∀ (d : Dev nD) (L : grid5.Coords) (Tx : S10000x128.Idx → F .f32) (Ix : S32x10496.Idx → BitVec 32),
    (bigSep Finset.univ fun tb : Fin k5_t1_loop.trips × Fin 2 =>
        (iprop(∃ f, (Cert.Proof.TileB2.oLoc d ↦[Cert.Proof.TileB2.oChunkSet L tb.1 tb.2]{fullShare} f)
          ∗ ⌜∀ x ∈ Cert.Proof.TileB2.oChunkSet L tb.1 tb.2, f x = gsumF Tx Ix x⌝) : sProp 𝕄))
      ⊢ (iprop(∃ fo, (out2 d ↦[(outRect (wid (cL2 L) (jL2 L))).set]{fullShare} fo) ∗ ⌜SumRel (wid (cL2 L) (jL2 L)) Tx Ix (rdO2 d fo)⌝) : sProp 𝕄)

set_option maxRecDepth 16384 in
set_option maxHeartbeats 1000000 in
/-- THE ASSEMBLY for call 0: the launch's statement of the body from the body's own. -/
theorem bodySpec2_of_tile (ht : TileStmt2 (F := F) Tb Ib) (he : ChunksVal2 (F := F)) : BodySpec2 (F := F) Tb Ib := by
  intro d L O W hO hOlev
  have hgo : goQ Tb Ib 2 d (cL2 L) (jL2 L)
      = goPay (tab2 d) (idxLoc d) (out2 d) (sh2 d) (fun _ n => (stageRect n).set) (fun w => (outRect w).set) (wrT2 d) (wrI d) (Tb 2 d) (Ib d) 2 d (cL2 L) (jL2 L) := rfl
  have htd : tdQ Tb Ib 2 d (cL2 L) (jL2 L)
      = tdPay (tab2 d) (idxLoc d) (out2 d) (sh2 d) (fun _ n => (stageRect n).set) (fun w => (outRect w).set) (wrT2 d) (wrI d) (rdO2 d) (wrS2 d) (Tb 2 d) (Ib d) 2 d (cL2 L) (jL2 L) := rfl
  rw [hgo, htd, (K (F := F)).scopedBufs_V facts d (Cert.Proof.TileB2.cV L) (Cert.Proof.TileB2.jV L),
    SparseCore.Cfg.scopedSems0_V (Val := Elt F) d (Cert.Proof.TileB2.cV L) (Cert.Proof.TileB2.jV L),
    Cert.Proof.TileB2.ownSems0_V (F := F) (U := UU) d L, Cert.Proof.TileB2.ownBufs_V (F := F) (U := UU) d L]
  unfold goPay tdPay barCarry
  iintro ⟨#Hlv, Hkit, ⟨Ht, Hi, %hok, ⟨%fo, Ho⟩, Hs, Hat, #Hre⟩, ⟨Hb0, Hb1, Hb2, Hbrest⟩, ⟨Hs0, Hs1, Hs2, Hs3, Hs4, Hs5, Hsrest⟩, HO⟩
  ihave Hk := (kit_conv2 (F := F) Tb d L) $$ [Hkit Hat]
  · isplitl [Hkit]; · iexact Hkit
    isplitl [Hat]; · iexact Hat
    iexact Hre
  ihave Hg := (go_conv2 (F := F) d L (tileShare (cL2 L) (jL2 L)) (Tb 2 d) (Ib d) fo) $$ [Ht Hi Ho Hs]
  · isplitl [Ht]; · iexact Ht
    isplitl [Hi]; · iexact Hi
    isplitl [Ho]; · iexact Ho
    iexact Hs
  icases Hg with ⟨Hgo, Hirest⟩
  iapply (wp_wand_r frame (wpE (defs₀ (F := F)) 𝒱₀ (V d (Cert.Proof.TileB2.cV L) (Cert.Proof.TileB2.jV L)) none) Set.univ)
  isplitl [Hk Hgo Hb0 Hb1 Hb2 Hs0 Hs1 Hs2 Hs3 Hs4 Hs5 HO]
  · iapply (ht d L (tileShare (cL2 L) (jL2 L)) (tileShare (cL2 L) (jL2 L)) fo O W hO hOlev (hin_conv2 (F := F) L (Ib d) hok))
    isplitr; · iexact Hlv
    isplitl [Hk]; · iexact Hk
    isplitl [Hgo]; · iexact Hgo
    isplitl [Hb0 Hb1 Hb2]
    · isplitl [Hb0]; · iexact Hb0
      isplitl [Hb1]; · iexact Hb1
      iexact Hb2
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    iexact HO
  iintro %_ ⟨Htd, ⟨Hat1, Hre1⟩, ⟨Hb0, Hb1, Hb2⟩, ⟨Hs0, Hs1, Hs2, Hs3, Hs4, Hs5⟩, HW⟩
  unfold tdTv2
  icases Htd with ⟨Ht, Hrow, Hch, Hsk, Hsd⟩
  ihave Ho := (he d L (Tb 2 d) (Ib d)) $$ Hch
  have hI : iprop((Cert.Proof.TileB2.iLoc d ↦[Cert.Proof.TileB2.iRowSet L]{tileShare (cL2 L) (jL2 L)} Ib d)
        ∗ (idxLoc d ↦[Finset.univ \ Cert.Proof.TileB2.iRowSet L]{tileShare (cL2 L) (jL2 L)} wrI d (Ib d)))
      ⊢ (idxLoc d ↦{tileShare (cL2 L) (jL2 L)} wrI d (Ib d) : sProp 𝕄) :=
    (pointsTo_split_subset (ℓ := idxLoc d) (q := tileShare (cL2 L) (jL2 L)) (f := wrI d (Ib d)) (Finset.subset_univ (Cert.Proof.TileB2.iRowSet L))).2
  have hSd : (Cert.Proof.TileB2.shLoc d (Cert.Proof.TileB2.cV L) ↦[Cert.Proof.TileB2.stripe (Cert.Proof.TileB2.jL L)]{Cert.Proof.TileB2.shKeep} Tb 2 d : sProp 𝕄)
      ⊢ (sh2 d (Cert.Proof.TileB2.cV L) ↦[(stageRect (jL2 L)).set]{Transfers.shareDrop fullShare 16} wrS2 d (Cert.Proof.TileB2.cV L) (Tb 2 d) : sProp 𝕄) := by
    rw [stripe2_eq]
  isplitl [Ht Hrow Hirest Ho Hsk Hsd Hat1 Hre1]
  · isplitl [Ht]; · iexact Ht
    isplitl [Hrow Hirest]
    · iapply hI
      isplitl [Hrow]; · iexact Hrow
      iexact Hirest
    isplitl [Ho]; · iexact Ho
    isplitl [Hsk]; · iexact Hsk
    isplitl [Hsd]
    · iapply hSd; iexact Hsd
    isplitl [Hat1]; · iexact Hat1
    iexact Hre1
  isplitl [Hb0 Hb1 Hb2 Hbrest]
  · isplitl [Hb0]; · iexact Hb0
    isplitl [Hb1]; · iexact Hb1
    isplitl [Hb2]; · iexact Hb2
    iexact Hbrest
  isplitl [Hs0 Hs1 Hs2 Hs3 Hs4 Hs5 Hsrest]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsrest
  iexact HW

end Cert.Proof.KB

end
-- ==== Proof.BodyInvK.lean ====
/-
  The invariant of the gather-sum kernel's forty trips, for one vector subcore: which gathers and copy-outs are in flight
  when `t` trips are done, and what of the scratches, of the shared table's read shares and of the result chunks is held.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsK
import proofs.«205366_g3083786518796_cont_9to1_852_38_alg».proof.Proof.BodyLemmasK

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

section Body
variable (d : Dev nD) (L : grid0.Coords)

/-! ## The forty trips' invariant -/

theorem k0_trips_eq : k0_t1_loop.trips = 40 := by decide

/-- Trip `n` as an index of the loop (clamped). -/
def tFin (n : ℕ) : Fin k0_t1_loop.trips := ⟨min n 39, by rw [k0_trips_eq]; omega⟩
theorem tFin_val (k : Fin k0_t1_loop.trips) : tFin k.val = k := Fin.ext (by have h := lt_of_lt_of_eq k.isLt k0_trips_eq; show min k.val 39 = k.val; omega)

/-- The index windows of the two gathers started before the loop, and of those a trip starts. -/
abbrev ixLit0 : Memref sig .scVector .vmem S128 .i32 := (ixV).slice (Rect.unit (s := S10496) ![0] S128.size inb_S10496_S128_0) (fun _ => rfl)
abbrev ixLit1 : Memref sig .scVector .vmem S128 .i32 := (ixV).slice (Rect.unit (s := S10496) ![128] S128.size inb_S10496_S128_128) (fun _ => rfl)
abbrev ixLoop0 (t : Fin k0_t1_loop.trips) : Memref sig .scVector .vmem S128 .i32 := (ixV).slice (Rect.unit (s := S10496) (k0_off21 t 0#32) S128.size (k0_off21_inb t 0)) (fun _ => rfl)
abbrev ixLoop1 (t : Fin k0_t1_loop.trips) : Memref sig .scVector .vmem S128 .i32 := (ixV).slice (Rect.unit (s := S10496) (k0_off21 t 1#32) S128.size (k0_off21_inb t 1)) (fun _ => rfl)

abbrev ixLoopSet0 (t : Fin k0_t1_loop.trips) : Finset S10496.Idx := (ixLoop0 t).view.set
abbrev ixLoopSet1 (t : Fin k0_t1_loop.trips) : Finset S10496.Idx := (ixLoop1 t).view.set
abbrev ixLitSet0 : Finset S10496.Idx := (ixLit0).view.set
abbrev ixLitSet1 : Finset S10496.Idx := (ixLit1).view.set

section Inv

variable (Tx : S10000x128.Idx → Elt F .f32) (Ix : S32x10496.Idx → Elt F .i32)

/-- A gather in flight into slot 0 (resp. 1) of the row scratch, over the index window `w`, and the rest of that window's
    share of the index scratch. -/
def gFl0 (ws : Finset S10496.Idx) (fr : Buf (Elt F) ((V d (cV L) (jV L)).loc cc0_scratch1)) : sProp 𝕄 :=
  iprop(Transfers.Flight (countersEmb : UEmb Counters 𝕄) (V d (cV L) (jV L)) (SemLoc.dma g0sem) (default : HIx 3) 524288
      iprop((((rwV).view.loc (V d (cV L) (jV L)) ↦[(rwK0).view.set]{fullShare} fr)
          ∗ ((ixV).view.loc (V d (cV L) (jV L)) ↦[ws]{fullShare.left} (iRowK L).view.read (Elt F) Ix))
        ∗ ((shV).view.loc (V d (cV L) (jV L)) ↦[(shAllK).view.set]{(shTok (jV L)).left} Tx))
    ∗ ((ixV).view.loc (V d (cV L) (jV L)) ↦[Finset.univ \ ws]{fullShare.left} (iRowK L).view.read (Elt F) Ix))
def gFl1 (ws : Finset S10496.Idx) (fr : Buf (Elt F) ((V d (cV L) (jV L)).loc cc0_scratch1)) : sProp 𝕄 :=
  iprop(Transfers.Flight (countersEmb : UEmb Counters 𝕄) (V d (cV L) (jV L)) (SemLoc.dma g1sem) (default : HIx 3) 524288
      iprop((((rwV).view.loc (V d (cV L) (jV L)) ↦[(rwK1).view.set]{fullShare} fr)
          ∗ ((ixV).view.loc (V d (cV L) (jV L)) ↦[ws]{fullShare.right} (iRowK L).view.read (Elt F) Ix))
        ∗ ((shV).view.loc (V d (cV L) (jV L)) ↦[(shAllK).view.set]{(shTok (jV L)).right} Tx))
    ∗ ((ixV).view.loc (V d (cV L) (jV L)) ↦[Finset.univ \ ws]{fullShare.right} (iRowK L).view.read (Elt F) Ix))

/-- A copy-out in flight from slot 0 (resp. 1) of the result scratch to the chunk of trip `t`. -/
def oFl0 (t : Fin k0_t1_loop.trips) (fc : S10240x128.Idx → Elt F .f32) (fob : Buf (Elt F) ((V d (cV L) (jV L)).loc cc0_scratch2)) : sProp 𝕄 :=
  Transfers.Flight (countersEmb : UEmb Counters 𝕄) (V d (cV L) (jV L)) (SemLoc.dma o0sem) (default : HIx 3) 16384
    iprop(((oChunkK L t 0).view.loc (V d (cV L) (jV L)) ↦[(oChunkK L t 0).view.set]{fullShare} fc)
      ∗ ((obV).view.loc (V d (cV L) (jV L)) ↦[(obK0).view.set]{fullShare} fob))
def oFl1 (t : Fin k0_t1_loop.trips) (fc : S10240x128.Idx → Elt F .f32) (fob : Buf (Elt F) ((V d (cV L) (jV L)).loc cc0_scratch2)) : sProp 𝕄 :=
  Transfers.Flight (countersEmb : UEmb Counters 𝕄) (V d (cV L) (jV L)) (SemLoc.dma o1sem) (default : HIx 3) 16384
    iprop(((oChunkK L t 1).view.loc (V d (cV L) (jV L)) ↦[(oChunkK L t 1).view.set]{fullShare} fc)
      ∗ ((obV).view.loc (V d (cV L) (jV L)) ↦[(obK1).view.set]{fullShare} fob))

/-- The two result chunks of trip `t'` when `t` trips are done: in flight (trip `t - 1`'s), else held at some contents. -/
def rowSt (t : ℕ) (t' : Fin k0_t1_loop.trips) : sProp 𝕄 :=
  if t'.val + 1 = t then iprop(emp)
  else iprop((∃ f, (oChunkK L t' 0).view.loc (V d (cV L) (jV L)) ↦[(oChunkK L t' 0).view.set]{fullShare} f)
    ∗ (∃ f, (oChunkK L t' 1).view.loc (V d (cV L) (jV L)) ↦[(oChunkK L t' 1).view.set]{fullShare} f))

/-- When `t` trips are done: the gathers of chunks `2 t` and `2 t + 1` are in flight; the copy-outs of trip `t - 1` are
    (none before the first trip); the scratches less the slots in flight are held; the shared table's two read shares less
    nothing; every other result chunk is held. -/
def tripInv (O : CellTallies nD τ sig (HIx 3)) (W : Waits sig (HIx 3)) (t : ℕ) (_ : PUnit) : sProp 𝕄 :=
  iprop(Transfers.MayWaits (V d (cV L) (jV L)) (default : HIx 3) O
    ∗ (if t = 0 then iprop(∃ fr0 fr1 : Buf (Elt F) ((V d (cV L) (jV L)).loc cc0_scratch1), gFl0 d L Tx Ix ixLitSet0 fr0 ∗ gFl1 d L Tx Ix ixLitSet1 fr1)
        else iprop(∃ fr0 fr1 : Buf (Elt F) ((V d (cV L) (jV L)).loc cc0_scratch1),
          gFl0 d L Tx Ix (ixLoopSet0 (tFin (t - 1))) fr0 ∗ gFl1 d L Tx Ix (ixLoopSet1 (tFin (t - 1))) fr1))
    ∗ (∃ frr : Buf (Elt F) ((V d (cV L) (jV L)).loc cc0_scratch1),
        (rwV).view.loc (V d (cV L) (jV L)) ↦[(Finset.univ \ (rwK0).view.set) \ (rwK1).view.set]{fullShare} frr)
    ∗ ((shV).view.loc (V d (cV L) (jV L)) ↦[Finset.univ \ (shAllK).view.set]{(shTok (jV L)).left} Tx)
    ∗ ((shV).view.loc (V d (cV L) (jV L)) ↦[Finset.univ \ (shAllK).view.set]{(shTok (jV L)).right} Tx)
    ∗ (if t = 0 then iprop(∃ fob : Buf (Elt F) ((V d (cV L) (jV L)).loc cc0_scratch2), ((obV).view.loc (V d (cV L) (jV L)) ↦{fullShare} fob)
            ∗ semVal (V d (cV L) (jV L), SemLoc.dma o0sem) 0 ∗ semVal (V d (cV L) (jV L), SemLoc.dma o1sem) 0)
        else iprop(∃ (fob : Buf (Elt F) ((V d (cV L) (jV L)).loc cc0_scratch2)) (fc0 fc1 : S10240x128.Idx → Elt F .f32) (fob0 fob1 : Buf (Elt F) ((V d (cV L) (jV L)).loc cc0_scratch2)),
            oFl0 d L (tFin (t - 1)) fc0 fob0 ∗ oFl1 d L (tFin (t - 1)) fc1 fob1
            ∗ ((obV).view.loc (V d (cV L) (jV L)) ↦[(Finset.univ \ (obK0).view.set) \ (obK1).view.set]{fullShare} fob)))
    ∗ (bigSep Finset.univ fun t' : Fin k0_t1_loop.trips => rowSt d L t t')
    ∗ ∃ W', ⌜∀ p ∈ W', p ∈ W ∨ p.2 = none⌝ ∗ owes (V d (cV L) (jV L)) O W')

end Inv

end Body
end Cert.Proof.TileB
end
-- ==== Proof.BodyJoinK.lean ====
/-
  Joining pieces of one buffer held at contents of their own; the slots of the row and result scratches are apart; the
  result chunks' rows as the trips' invariant states them, opened and closed; what the stage copy and the index copy leave.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsK
import proofs.«205366_g3083786518796_cont_9to1_852_38_alg».proof.Proof.BodyLemmasK
import proofs.«205366_g3083786518796_cont_9to1_852_38_alg».proof.Proof.BodyInvK

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

section Body
variable (d : Dev nD) (L : grid0.Coords)

/-! ## Two pieces of one buffer, at contents of their own, are their union at some contents -/

theorem pts_join {ℓ : Loc nD τ sig} {q : PosShare TreeShare} {A B : Finset (Idx ℓ)} (h : Disjoint A B) (f g : Buf (Elt F) ℓ) :
    iprop((ℓ ↦[A]{q} f) ∗ (ℓ ↦[B]{q} g)) ⊢ (iprop(∃ h, ℓ ↦[A ∪ B]{q} h) : sProp 𝕄) := by
  classical
  have e1 : (ℓ ↦[A]{q} f : sProp 𝕄) = ℓ ↦[A]{q} (fun i => if i ∈ A then f i else g i) := pointsTo_congr fun i hi => by simp [hi]
  have e2 : (ℓ ↦[B]{q} g : sProp 𝕄) = ℓ ↦[B]{q} (fun i => if i ∈ A then f i else g i) := pointsTo_congr fun i hi => by
    have : i ∉ A := fun ha => (Finset.disjoint_left.mp h ha hi)
    simp [this]
  iintro ⟨HA, HB⟩
  iexists (fun i => if i ∈ A then f i else g i)
  ihave HA' := (Entails.of_eq e1) $$ HA
  ihave HB' := (Entails.of_eq e2) $$ HB
  iapply (pointsTo_split_subset (S := A ∪ B) (I := A) Finset.subset_union_left).2
  isplitl [HA']; · iexact HA'
  rw [Finset.union_sdiff_cancel_left h]; iexact HB'

/-- The two slots of the row scratch, and of the result scratch, are apart. -/
theorem set_rwK0 : (rwK0).view.set = (Rect.unit (s := S2x128x128) ![0, 0, 0] S1x128x128.size inb_S2x128x128_S1x128x128_0_0_0).set := by
  show (((rwV).view.slice (Rect.unit (s := S2x128x128) ![0, 0, 0] S1x128x128.size inb_S2x128x128_S1x128x128_0_0_0)).reshape S128x128 squeezes_S1x128x128_S128x128.numel_eq).set = _
  rw [View.set_reshape, View.set_slice_whole]
theorem set_rwK1 : (rwK1).view.set = (Rect.unit (s := S2x128x128) ![1, 0, 0] S1x128x128.size inb_S2x128x128_S1x128x128_1_0_0).set := by
  show (((rwV).view.slice (Rect.unit (s := S2x128x128) ![1, 0, 0] S1x128x128.size inb_S2x128x128_S1x128x128_1_0_0)).reshape S128x128 squeezes_S1x128x128_S128x128.numel_eq).set = _
  rw [View.set_reshape, View.set_slice_whole]
theorem set_obK0 : (obK0).view.set = (Rect.unit (s := S2x4x128) ![0, 0, 0] S1x4x128.size inb_S2x4x128_S1x4x128_0_0_0).set := by
  show (((obV).view.slice (Rect.unit (s := S2x4x128) ![0, 0, 0] S1x4x128.size inb_S2x4x128_S1x4x128_0_0_0)).reshape S4x128 squeezes_S1x4x128_S4x128.numel_eq).set = _
  rw [View.set_reshape, View.set_slice_whole]
theorem set_obK1 : (obK1).view.set = (Rect.unit (s := S2x4x128) ![1, 0, 0] S1x4x128.size inb_S2x4x128_S1x4x128_1_0_0).set := by
  show (((obV).view.slice (Rect.unit (s := S2x4x128) ![1, 0, 0] S1x4x128.size inb_S2x4x128_S1x4x128_1_0_0)).reshape S4x128 squeezes_S1x4x128_S4x128.numel_eq).set = _
  rw [View.set_reshape, View.set_slice_whole]
theorem rw_slots_disjoint : Disjoint (rwK0).view.set (rwK1).view.set := by
  rw [set_rwK0, set_rwK1]; exact Rect.unit_disjoint 0 (Or.inl (by decide))
theorem ob_slots_disjoint : Disjoint (obK0).view.set (obK1).view.set := by
  rw [set_obK0, set_obK1]; exact Rect.unit_disjoint 0 (Or.inl (by decide))

theorem sdiff_join_left {α : Type} [DecidableEq α] [Fintype α] {A B : Finset α} (h : Disjoint A B) :
    A ∪ ((Finset.univ \ A) \ B) = Finset.univ \ B := by
  ext i
  have hd : i ∈ A → i ∉ B := fun ha => Finset.disjoint_left.mp h ha
  simp only [Finset.mem_union, Finset.mem_sdiff, Finset.mem_univ, true_and]
  tauto
theorem sdiff_join_right {α : Type} [DecidableEq α] [Fintype α] {A B : Finset α} (h : Disjoint A B) :
    B ∪ ((Finset.univ \ B) \ A) = Finset.univ \ A := sdiff_join_left h.symm
theorem sdiff_join_all {α : Type} [DecidableEq α] [Fintype α] {A : Finset α} : A ∪ (Finset.univ \ A) = Finset.univ := by
  ext i; simp only [Finset.mem_union, Finset.mem_sdiff, Finset.mem_univ, true_and]; tauto

theorem sdiff_join_disj {α : Type} [DecidableEq α] [Fintype α] {A B : Finset α} (h : Disjoint A B) : Disjoint A ((Finset.univ \ A) \ B) :=
  Finset.disjoint_left.mpr fun i hi hm => (Finset.mem_sdiff.mp (Finset.mem_sdiff.mp hm).1).2 hi

theorem row_intro (t' : Fin k0_t1_loop.trips) (fo : S10240x128.Idx → Elt F .f32) :
    iprop((oLoc d ↦[oChunkSet L t' 0]{fullShare} fo) ∗ (oLoc d ↦[oChunkSet L t' 1]{fullShare} fo))
    ⊢ (iprop((∃ f, (oChunkK L t' 0).view.loc (V d (cV L) (jV L)) ↦[(oChunkK L t' 0).view.set]{fullShare} f)
      ∗ (∃ f, (oChunkK L t' 1).view.loc (V d (cV L) (jV L)) ↦[(oChunkK L t' 1).view.set]{fullShare} f)) : sProp 𝕄) := by
  iintro ⟨H0, H1⟩
  isplitl [H0]
  · iexists fo; iapply (Entails.of_eq (pts_oChunk (F := F) (U := U) d L t' 0 fo).symm); iexact H0
  · iexists fo; iapply (Entails.of_eq (pts_oChunk (F := F) (U := U) d L t' 1 fo).symm); iexact H1

theorem row_elim (t' : Fin k0_t1_loop.trips) :
    (iprop((∃ f, (oChunkK L t' 0).view.loc (V d (cV L) (jV L)) ↦[(oChunkK L t' 0).view.set]{fullShare} f)
      ∗ (∃ f, (oChunkK L t' 1).view.loc (V d (cV L) (jV L)) ↦[(oChunkK L t' 1).view.set]{fullShare} f)) : sProp 𝕄)
    ⊢ iprop((∃ f, oLoc d ↦[oChunkSet L t' 0]{fullShare} f) ∗ (∃ f, oLoc d ↦[oChunkSet L t' 1]{fullShare} f)) := by
  iintro ⟨⟨%f0, H0⟩, ⟨%f1, H1⟩⟩
  isplitl [H0]
  · iexists f0; iapply (Entails.of_eq (pts_oChunk (F := F) (U := U) d L t' 0 f0)); iexact H0
  · iexists f1; iapply (Entails.of_eq (pts_oChunk (F := F) (U := U) d L t' 1 f1)); iexact H1

/-- The result chunks, all held, as the invariant before the first trip states them. -/
theorem rows_of_chunks (fo : S10240x128.Idx → Elt F .f32) :
    (bigSep Finset.univ fun tb : Fin k0_t1_loop.trips × Fin 2 => (oLoc d ↦[oChunkSet L tb.1 tb.2]{fullShare} fo : sProp 𝕄))
    ⊢ bigSep Finset.univ fun t' : Fin k0_t1_loop.trips => rowSt (U := U) d L 0 t' := by
  rw [bigSep_univ_prod]
  refine bigSep_mono fun t' _ => ?_
  rw [bigSep_univ_two]
  unfold rowSt
  rw [if_neg (Nat.succ_ne_zero _)]
  exact row_intro (F := F) (U := U) d L t' fo

/-- Every result chunk held again, at some contents. -/
theorem chunks_of_rows (t : ℕ) (ht : ∀ t' : Fin k0_t1_loop.trips, t'.val + 1 ≠ t) :
    (bigSep Finset.univ fun t' : Fin k0_t1_loop.trips => rowSt (U := U) (F := F) d L t t')
    ⊢ bigSep Finset.univ fun tb : Fin k0_t1_loop.trips × Fin 2 => (iprop(∃ f, oLoc d ↦[oChunkSet L tb.1 tb.2]{fullShare} f) : sProp 𝕄) := by
  rw [bigSep_univ_prod]
  refine bigSep_mono fun t' _ => ?_
  rw [bigSep_univ_two]
  unfold rowSt
  rw [if_neg (ht t')]
  exact row_elim (F := F) (U := U) d L t'

/-- After the stage copy the stripe of the shared table holds the table's rows. -/
theorem stripe_fix (Tx fsh : S10000x128.Idx → Elt F .f32) :
    ((shStripeK L).view.loc (V d (cV L) (jV L)) ↦[(shStripeK L).view.set]{fullShare}
        (shStripeK L).view.writes (Elt F) fsh [⟨Rect.whole { rank := 2, size := (k0_off2 L).2 }, ReadAs.same.apply ((xStripeK L).view.read (Elt F) Tx)⟩] : sProp 𝕄)
    ⊢ shLoc d (cV L) ↦[stripe (jL L)]{fullShare} Tx := by
  rw [pointsTo_congr (stripe_copied (F := F) L Tx fsh)]
  exact Entails.of_eq (pts_shStripe (F := F) (U := U) d L _ _)

/-- After the index copy the index scratch holds row `wid`. -/
theorem idx_fix (Ix : S32x10496.Idx → Elt F .i32) (f0 : S10496.Idx → Elt F .i32) :
    ((ixV).view.loc (V d (cV L) (jV L)) ↦{fullShare} View.write (Elt F) (ixV).view f0 (ReadAs.same.apply ((iRowK L).view.read (Elt F) Ix)) Finset.univ : sProp 𝕄)
    ⊢ (ixV).view.loc (V d (cV L) (jV L)) ↦{fullShare} (iRowK L).view.read (Elt F) Ix := by
  rw [pointsTo_congr (idx_copied (F := F) L Ix f0)]

theorem stripe_numel_pos : ∀ L : grid0.Coords, 0 < (⟨2, (k0_off2 L).2⟩ : Shape).numel := by decide +kernel

theorem tFin_39 : (tFin 39).val + 1 = 40 := rfl

/-- All result chunks held again once the last trip's two copy-outs have landed. -/
theorem rows_close (fc0 fc1 : S10240x128.Idx → Elt F .f32) :
    iprop((bigSep Finset.univ fun t' : Fin k0_t1_loop.trips => rowSt (U := U) (F := F) d L 40 t')
      ∗ ((oChunkK L (tFin 39) 0).view.loc (V d (cV L) (jV L)) ↦[(oChunkK L (tFin 39) 0).view.set]{fullShare} fc0)
      ∗ ((oChunkK L (tFin 39) 1).view.loc (V d (cV L) (jV L)) ↦[(oChunkK L (tFin 39) 1).view.set]{fullShare} fc1))
    ⊢ bigSep Finset.univ fun tb : Fin k0_t1_loop.trips × Fin 2 => (iprop(∃ f, oLoc d ↦[oChunkSet L tb.1 tb.2]{fullShare} f) : sProp 𝕄) := by
  rw [bigSep_univ_prod]
  have hrest : Idealize.SL.BI.Entails
      (bigSep (Finset.univ.erase (tFin 39)) fun t' : Fin k0_t1_loop.trips => rowSt (U := U) (F := F) d L 40 t')
      (bigSep (Finset.univ.erase (tFin 39)) fun t' : Fin k0_t1_loop.trips => bigSep Finset.univ fun b : Fin 2 => (iprop(∃ f, oLoc d ↦[oChunkSet L (t', b).1 (t', b).2]{fullShare} f) : sProp 𝕄)) :=
    bigSep_mono fun t' ht' => by
      have hne : t'.val + 1 ≠ 40 := fun h => (Finset.mem_erase.mp ht').1 (Fin.ext (by show t'.val = min 39 39; omega))
      rw [bigSep_univ_two]
      unfold rowSt
      rw [if_neg hne]
      exact row_elim (F := F) (U := U) d L t'
  iintro ⟨Hrows, H0, H1⟩
  ihave Hr := (Entails.of_eq (SparseCore.bigSep_erase' (Φ := fun t' : Fin k0_t1_loop.trips => rowSt (U := U) (F := F) d L 40 t') (Finset.mem_univ (tFin 39)))) $$ Hrows
  icases Hr with ⟨-, Hrest⟩
  iapply (Entails.of_eq (SparseCore.bigSep_erase' (Φ := fun t' : Fin k0_t1_loop.trips => bigSep Finset.univ fun b : Fin 2 => (iprop(∃ f, oLoc d ↦[oChunkSet L (t', b).1 (t', b).2]{fullShare} f) : sProp 𝕄)) (Finset.mem_univ (tFin 39))).symm)
  isplitl [H0 H1]
  · rw [bigSep_univ_two]
    isplitl [H0]
    · iexists fc0; iapply (Entails.of_eq (pts_oChunk (F := F) (U := U) d L (tFin 39) 0 fc0)); iexact H0
    · iexists fc1; iapply (Entails.of_eq (pts_oChunk (F := F) (U := U) d L (tFin 39) 1 fc1)); iexact H1
  · iapply (SparseCore.ent hrest) $$ Hrest

end Body
end Cert.Proof.TileB
end
-- ==== Proof.BodyInvVK.lean ====
/-
  The gather-sum kernel's trips with what the buffers hold: the row scratch's slots hold the table rows their index chunks
  name, the result scratch's summed rows hold the tree sums, the chunks copied out hold their rows of the neighbour-sum array.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsK
import proofs.«205366_g3083786518796_cont_9to1_852_38_alg».proof.Proof.BodyLemmasK
import proofs.«205366_g3083786518796_cont_9to1_852_38_alg».proof.Proof.BodyInvK
import proofs.«205366_g3083786518796_cont_9to1_852_38_alg».proof.Proof.BodyJoinK
import proofs.«205366_g3083786518796_cont_9to1_852_38_alg».proof.Proof.GSumK
import Idealize.ShloMosaic.Lib.ValueIdx

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

section Body
variable (d : Dev nD) (L : grid0.Coords)

/-! ## The forty trips' invariant, with what the buffers hold -/

open Idealize.ShloMosaic.ValueIdx (ix1 ix2 ix3)

section InvV

variable (Tx : S10000x128.Idx → Elt F .f32) (Ix : S32x10496.Idx → Elt F .i32)

/-- Entry `n` of the worker's row of the index table, as a row number of the table (reduced into range). -/
def idxAt (n : ℕ) : Fin 10000 :=
  ⟨((iRowK L).view.read (Elt F) Ix (ix1 ⟨n % 10496, Nat.mod_lt _ (by decide)⟩)).toNat % 10000, Nat.mod_lt _ (by decide)⟩

/-- Slot `b` of the row scratch holds the 128 table rows named by index chunk `n`. -/
def RowsOK (b : Fin 2) (n : ℕ) (fr : S2x128x128.Idx → Elt F .f32) : Prop :=
  ∀ (r j : Fin 128), fr (ix3 b r j) = Tx (ix2 (idxAt L Ix (128 * n + r.val)) j)

/-- The tree sum of the 32 table rows named by entries `32 m …` of the worker's index row, at lane `j`: row `m` of the
    worker's 320 result rows. -/
def rowSum [FloatOps F] (m : ℕ) (j : Fin 128) : Elt F .f32 :=
  Cert.Proof.KB.tree32 (F := F) fun kk : Fin 32 => Tx (ix2 (idxAt L Ix (32 * m + kk.val)) j)

/-- Rows `< r` of slot `b` of the result scratch hold the sums of result rows `4 n …`. -/
def SumsOK [FloatOps F] (b : Fin 2) (n : ℕ) (r : ℕ) (fob : S2x4x128.Idx → Elt F .f32) : Prop :=
  ∀ (r' : Fin 4) (j : Fin 128), r'.val < r → fob (ix3 b r' j) = rowSum L Tx Ix (4 * n + r'.val) j

/-- A result chunk holds its rows of the neighbour-sum array. -/
def ChunkOK [FloatOps F] (t : Fin k0_t1_loop.trips) (b : Fin 2) (f : S10240x128.Idx → Elt F .f32) : Prop :=
  ∀ x ∈ oChunkSet L t b, f x = Cert.Proof.KB.gsumF (F := F) Tx Ix x

/-- The two result chunks of trip `t'` when `t` trips are done: in flight (trip `t - 1`'s); copied out and holding their rows of
    the neighbour-sum array (earlier trips'); else held at some contents. -/
def rowStV [FloatOps F] (t : ℕ) (t' : Fin k0_t1_loop.trips) : sProp 𝕄 :=
  if t'.val + 1 = t then iprop(emp)
  else if t'.val < t then
    iprop((∃ f, ⌜ChunkOK L Tx Ix t' 0 f⌝ ∗ ((oChunkK L t' 0).view.loc (V d (cV L) (jV L)) ↦[(oChunkK L t' 0).view.set]{fullShare} f))
      ∗ (∃ f, ⌜ChunkOK L Tx Ix t' 1 f⌝ ∗ ((oChunkK L t' 1).view.loc (V d (cV L) (jV L)) ↦[(oChunkK L t' 1).view.set]{fullShare} f)))
  else iprop((∃ f, (oChunkK L t' 0).view.loc (V d (cV L) (jV L)) ↦[(oChunkK L t' 0).view.set]{fullShare} f)
    ∗ (∃ f, (oChunkK L t' 1).view.loc (V d (cV L) (jV L)) ↦[(oChunkK L t' 1).view.set]{fullShare} f))

/-- The trips' invariant with what the buffers hold: the row scratch's slot in flight will hold the table rows its index
    chunk names; a chunk in flight will hold its rows of the neighbour-sum array; the chunks copied out hold theirs. -/
def tripInvV [FloatOps F] (O : CellTallies nD τ sig (HIx 3)) (W : Waits sig (HIx 3)) (t : ℕ) (_ : PUnit) : sProp 𝕄 :=
  iprop(Transfers.MayWaits (V d (cV L) (jV L)) (default : HIx 3) O
    ∗ (if t = 0 then iprop(∃ fr0 fr1 : Buf (Elt F) ((V d (cV L) (jV L)).loc cc0_scratch1),
          ⌜RowsOK L Tx Ix 0 (2 * t) fr0 ∧ RowsOK L Tx Ix 1 (2 * t + 1) fr1⌝ ∗ gFl0 d L Tx Ix ixLitSet0 fr0 ∗ gFl1 d L Tx Ix ixLitSet1 fr1)
        else iprop(∃ fr0 fr1 : Buf (Elt F) ((V d (cV L) (jV L)).loc cc0_scratch1),
          ⌜RowsOK L Tx Ix 0 (2 * t) fr0 ∧ RowsOK L Tx Ix 1 (2 * t + 1) fr1⌝
          ∗ gFl0 d L Tx Ix (ixLoopSet0 (tFin (t - 1))) fr0 ∗ gFl1 d L Tx Ix (ixLoopSet1 (tFin (t - 1))) fr1))
    ∗ (∃ frr : Buf (Elt F) ((V d (cV L) (jV L)).loc cc0_scratch1),
        (rwV).view.loc (V d (cV L) (jV L)) ↦[(Finset.univ \ (rwK0).view.set) \ (rwK1).view.set]{fullShare} frr)
    ∗ ((shV).view.loc (V d (cV L) (jV L)) ↦[Finset.univ \ (shAllK).view.set]{(shTok (jV L)).left} Tx)
    ∗ ((shV).view.loc (V d (cV L) (jV L)) ↦[Finset.univ \ (shAllK).view.set]{(shTok (jV L)).right} Tx)
    ∗ (if t = 0 then iprop(∃ fob : Buf (Elt F) ((V d (cV L) (jV L)).loc cc0_scratch2), ((obV).view.loc (V d (cV L) (jV L)) ↦{fullShare} fob)
            ∗ semVal (V d (cV L) (jV L), SemLoc.dma o0sem) 0 ∗ semVal (V d (cV L) (jV L), SemLoc.dma o1sem) 0)
        else iprop(∃ (fob : Buf (Elt F) ((V d (cV L) (jV L)).loc cc0_scratch2)) (fc0 fc1 : S10240x128.Idx → Elt F .f32) (fob0 fob1 : Buf (Elt F) ((V d (cV L) (jV L)).loc cc0_scratch2)),
            ⌜ChunkOK L Tx Ix (tFin (t - 1)) 0 fc0 ∧ ChunkOK L Tx Ix (tFin (t - 1)) 1 fc1⌝
            ∗ oFl0 d L (tFin (t - 1)) fc0 fob0 ∗ oFl1 d L (tFin (t - 1)) fc1 fob1
            ∗ ((obV).view.loc (V d (cV L) (jV L)) ↦[(Finset.univ \ (obK0).view.set) \ (obK1).view.set]{fullShare} fob)))
    ∗ (bigSep Finset.univ fun t' : Fin k0_t1_loop.trips => rowStV d L Tx Ix t t')
    ∗ ∃ W', ⌜∀ p ∈ W', p ∈ W ∨ p.2 = none⌝ ∗ owes (V d (cV L) (jV L)) O W')

/-- The inner loops' invariants: the slot's rows already summed hold their sums. `S` is what of the result scratch is held. -/
def innerInv0 [FloatOps F] (S : Finset S2x4x128.Idx) (n : ℕ) (h : Buf (Elt F) ((V d (cV L) (jV L)).loc cc0_scratch1)) (r : ℕ) (_ : PUnit) : sProp 𝕄 :=
  iprop(∃ fob' : Buf (Elt F) ((V d (cV L) (jV L)).loc cc0_scratch2), ⌜SumsOK L Tx Ix 0 n r fob'⌝
    ∗ ((rwV).view.loc (V d (cV L) (jV L)) ↦[Finset.univ \ (rwK1).view.set]{fullShare} h)
    ∗ ((obV).view.loc (V d (cV L) (jV L)) ↦[S]{fullShare} fob'))
def innerInv1 [FloatOps F] (n : ℕ) (h : Buf (Elt F) ((V d (cV L) (jV L)).loc cc0_scratch1)) (r : ℕ) (_ : PUnit) : sProp 𝕄 :=
  iprop(∃ fob' : Buf (Elt F) ((V d (cV L) (jV L)).loc cc0_scratch2), ⌜SumsOK L Tx Ix 1 n r fob'⌝
    ∗ ((rwV).view.loc (V d (cV L) (jV L)) ↦[Finset.univ \ (rwK0).view.set]{fullShare} h)
    ∗ ((obV).view.loc (V d (cV L) (jV L)) ↦[Finset.univ \ (obK0).view.set]{fullShare} fob'))

end InvV

end Body
end Cert.Proof.TileB
end
-- ==== Proof.BodyTripK.lean ====
/-
  One trip of the gather-sum kernel's forty on a vector subcore, from the trips' invariant to itself one trip on: for each
  of the two slots, its gather waited for (and, past the first trip, its previous copy-out), the slot's four rows summed
  (a loop of four, each the tree sum of 32 rows, 16 lanes at a time), the sums copied out to the trip's chunk, the slot's
  next gather started.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsK
import proofs.«205366_g3083786518796_cont_9to1_852_38_alg».proof.Proof.BodyLemmasK
import proofs.«205366_g3083786518796_cont_9to1_852_38_alg».proof.Proof.BodyInvK
import proofs.«205366_g3083786518796_cont_9to1_852_38_alg».proof.Proof.BodyJoinK

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

section Body
variable (d : Dev nD) (L : grid0.Coords)

theorem rowSt_ne {t : ℕ} {t' : Fin k0_t1_loop.trips} (h : t'.val + 1 ≠ t) :
    (rowSt (U := U) (F := F) d L t t' : sProp 𝕄)
      = iprop((∃ f, (oChunkK L t' 0).view.loc (V d (cV L) (jV L)) ↦[(oChunkK L t' 0).view.set]{fullShare} f)
        ∗ (∃ f, (oChunkK L t' 1).view.loc (V d (cV L) (jV L)) ↦[(oChunkK L t' 1).view.set]{fullShare} f)) := by
  unfold rowSt; rw [if_neg h]
theorem rowSt_eq {t : ℕ} {t' : Fin k0_t1_loop.trips} (h : t'.val + 1 = t) : (rowSt (U := U) (F := F) d L t t' : sProp 𝕄) = iprop(emp) := by
  unfold rowSt; rw [if_pos h]

theorem cond1_zero {k : Fin k0_t1_loop.trips} (hk : k.val = 0) : ¬ k0_cond1 k = 1#1 := by
  have : k = ⟨0, by decide⟩ := Fin.ext hk
  subst this; decide
theorem cond2_zero {k : Fin k0_t1_loop.trips} (hk : k.val = 0) : ¬ k0_cond2 k = 1#1 := by
  have : k = ⟨0, by decide⟩ := Fin.ext hk
  subst this; decide
theorem cond1_pos : ∀ k : Fin k0_t1_loop.trips, k.val ≠ 0 → k0_cond1 k = 1#1 := by decide
theorem cond2_pos : ∀ k : Fin k0_t1_loop.trips, k.val ≠ 0 → k0_cond2 k = 1#1 := by decide

/-- The chunk rows after the first trip: its own two chunks are in flight, the others as before. -/
theorem rows_step0 (k : Fin k0_t1_loop.trips) (hk : k.val = 0) :
    (bigSep (Finset.univ.erase k) fun t' : Fin k0_t1_loop.trips => rowSt (U := U) (F := F) d L k.val t')
    ⊢ bigSep Finset.univ fun t' : Fin k0_t1_loop.trips => rowSt (U := U) (F := F) d L (k.val + 1) t' := by
  have hrest : Idealize.SL.BI.Entails
      (bigSep (Finset.univ.erase k) fun t' : Fin k0_t1_loop.trips => rowSt (U := U) (F := F) d L k.val t')
      (bigSep (Finset.univ.erase k) fun t' : Fin k0_t1_loop.trips => rowSt (U := U) (F := F) d L (k.val + 1) t') :=
    bigSep_mono fun t' ht' => by
      have hne : t' ≠ k := (Finset.mem_erase.mp ht').1
      have h1 : t'.val + 1 ≠ k.val := by omega
      have h2 : t'.val + 1 ≠ k.val + 1 := fun h => hne (Fin.ext (by omega))
      rw [rowSt_ne (F := F) (U := U) d L h1, rowSt_ne (F := F) (U := U) d L h2]
      exact BI.Entails.refl _
  iintro H
  iapply (Entails.of_eq (SparseCore.bigSep_erase' (Φ := fun t' : Fin k0_t1_loop.trips => rowSt (U := U) (F := F) d L (k.val + 1) t') (Finset.mem_univ k)).symm)
  isplitr
  · rw [rowSt_eq (F := F) (U := U) d L rfl]; iempintro
  · iapply (SparseCore.ent hrest) $$ H

/-- The chunk rows after a later trip: its own two chunks are in flight, the previous trip's two are back. -/
theorem rows_stepS (k : Fin k0_t1_loop.trips) (hk : k.val ≠ 0)
    (fc0 : Buf (Elt F) ((oChunkK L (tFin (k.val - 1)) 0).view.loc (V d (cV L) (jV L))))
    (fc1 : Buf (Elt F) ((oChunkK L (tFin (k.val - 1)) 1).view.loc (V d (cV L) (jV L)))) :
    iprop((bigSep (Finset.univ.erase k) fun t' : Fin k0_t1_loop.trips => rowSt (U := U) (F := F) d L k.val t')
      ∗ ((oChunkK L (tFin (k.val - 1)) 0).view.loc (V d (cV L) (jV L)) ↦[(oChunkK L (tFin (k.val - 1)) 0).view.set]{fullShare} fc0)
      ∗ ((oChunkK L (tFin (k.val - 1)) 1).view.loc (V d (cV L) (jV L)) ↦[(oChunkK L (tFin (k.val - 1)) 1).view.set]{fullShare} fc1))
    ⊢ bigSep Finset.univ fun t' : Fin k0_t1_loop.trips => rowSt (U := U) (F := F) d L (k.val + 1) t' := by
  have h40 := lt_of_lt_of_eq k.isLt k0_trips_eq
  have hkm : (tFin (k.val - 1)).val + 1 = k.val := by show min (k.val - 1) 39 + 1 = k.val; omega
  have hne : tFin (k.val - 1) ≠ k := fun h => by have := congrArg Fin.val h; omega
  have hmem : tFin (k.val - 1) ∈ Finset.univ.erase k := Finset.mem_erase.mpr ⟨hne, Finset.mem_univ _⟩
  have hrest : Idealize.SL.BI.Entails
      (bigSep ((Finset.univ.erase k).erase (tFin (k.val - 1))) fun t' : Fin k0_t1_loop.trips => rowSt (U := U) (F := F) d L k.val t')
      (bigSep ((Finset.univ.erase k).erase (tFin (k.val - 1))) fun t' : Fin k0_t1_loop.trips => rowSt (U := U) (F := F) d L (k.val + 1) t') :=
    bigSep_mono fun t' ht' => by
      have h1 : t' ≠ tFin (k.val - 1) := (Finset.mem_erase.mp ht').1
      have h2 : t' ≠ k := (Finset.mem_erase.mp (Finset.mem_erase.mp ht').2).1
      have e1 : t'.val + 1 ≠ k.val := fun h => h1 (Fin.ext (by omega))
      have e2 : t'.val + 1 ≠ k.val + 1 := fun h => h2 (Fin.ext (by omega))
      rw [rowSt_ne (F := F) (U := U) d L e1, rowSt_ne (F := F) (U := U) d L e2]
      exact BI.Entails.refl _
  iintro ⟨H, H0, H1⟩
  ihave Hs := (Entails.of_eq (SparseCore.bigSep_erase' (Φ := fun t' : Fin k0_t1_loop.trips => rowSt (U := U) (F := F) d L k.val t') hmem)) $$ H
  icases Hs with ⟨-, Hrest⟩
  iapply (Entails.of_eq (SparseCore.bigSep_erase' (Φ := fun t' : Fin k0_t1_loop.trips => rowSt (U := U) (F := F) d L (k.val + 1) t') (Finset.mem_univ k)).symm)
  isplitr
  · rw [rowSt_eq (F := F) (U := U) d L rfl]; iempintro
  iapply (Entails.of_eq (SparseCore.bigSep_erase' (Φ := fun t' : Fin k0_t1_loop.trips => rowSt (U := U) (F := F) d L (k.val + 1) t') hmem).symm)
  isplitl [H0 H1]
  · rw [rowSt_ne (F := F) (U := U) d L (show (tFin (k.val - 1)).val + 1 ≠ k.val + 1 by omega)]
    isplitl [H0]; · iexists fc0; iexact H0
    iexists fc1; iexact H1
  · iapply (SparseCore.ent hrest) $$ Hrest

set_option maxHeartbeats 8000000 in
/-- The first trip: no copy-out is pending. -/
theorem trip0 (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k0_t1_loop.trips) (hk : k.val = 0) (x : PUnit) :
    tripInv (U := U) d L Tx Ix O W k.val x
      ⊢ wp frame (wpE (defs₀ (F := F)) 𝒱₀ (V d (cV L) (jV L)) none) Set.univ
          (k0_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k x)
          fun y => tripInv (U := U) d L Tx Ix O W (k.val + 1) y := by
  have hc1 := cond1_zero hk
  have hc2 := cond2_zero hk
  have hrow : (k.val + 1 ≠ k.val) := Nat.succ_ne_self _
  unfold tripInv
  rw [if_pos hk, if_pos hk]
  unfold gFl0 gFl1
  iintro ⟨#Hmw, ⟨%fr0, %fr1, ⟨FG0, Hix0⟩, ⟨FG1, Hix1⟩⟩, ⟨%frr, Hrwr⟩, Hsh0, Hsh1, ⟨%fob, Hob, Hso0, Hso1⟩, Hrows, ⟨%W', %hW', HO⟩⟩
  ihave Hr := (Entails.of_eq (SparseCore.bigSep_erase' (Φ := fun t' : Fin k0_t1_loop.trips => rowSt (U := U) (F := F) d L k.val t') (Finset.mem_univ k))) $$ Hrows
  icases Hr with ⟨Hrow, Hrest⟩
  ihave Hrow' := (Entails.of_eq (rowSt_ne (F := F) (U := U) d L hrow)) $$ Hrow
  icases Hrow' with ⟨⟨%fc0, Hoc0⟩, ⟨%fc1, Hoc1⟩⟩
  unfold k0_t1_body
  -- slot 0: its gather waited for
  sl_exec
  -- slot 0 of the row scratch, back from its gather, joined to what is held of the scratch
  ihave Hj := (pts_join (F := F) (U := U) (sdiff_join_disj rw_slots_disjoint) fr0 frr) $$ [FG0_dst Hrwr]
  · isplitl [FG0_dst]; · iexact FG0_dst
    iexact Hrwr
  icases Hj with ⟨%g1, Hrw⟩
  rw [sdiff_join_left rw_slots_disjoint]
  -- the four sums of slot 0
  sl_for (fun (_ : Nat) (_ : PUnit) => (iprop(∃ fob' : Buf (Elt F) ((V d (cV L) (jV L)).loc cc0_scratch2),
      ((rwV).view.loc (V d (cV L) (jV L)) ↦[Finset.univ \ (rwK1).view.set]{fullShare} g1)
      ∗ ((obV).view.loc (V d (cV L) (jV L)) ↦{fullShare} fob')) : sProp 𝕄)) $$ [Hrw Hob]
  case region =>
    intro k2 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobA, Hrw, Hob⟩
  -- slot 0 copied out, its next gather started; slot 1's gather waited for
  sl_exec
  -- slot 1 of the row scratch joined
  ihave Hj := (pts_join (F := F) (U := U) (sdiff_join_disj rw_slots_disjoint.symm) fr1 _) $$ [FG1_dst Hrw]
  · isplitl [FG1_dst]; · iexact FG1_dst
    iexact Hrw
  icases Hj with ⟨%g2, Hrw⟩
  rw [sdiff_join_left rw_slots_disjoint.symm]
  -- the four sums of slot 1
  sl_for (fun (_ : Nat) (_ : PUnit) => (iprop(∃ fob' : Buf (Elt F) ((V d (cV L) (jV L)).loc cc0_scratch2),
      ((rwV).view.loc (V d (cV L) (jV L)) ↦[Finset.univ \ (rwK0).view.set]{fullShare} g2)
      ∗ ((obV).view.loc (V d (cV L) (jV L)) ↦[Finset.univ \ (obK0).view.set]{fullShare} fob')) : sProp 𝕄)) $$ [Hrw Hob]
  case region =>
    intro k3 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobB, Hrw, Hob⟩
  -- slot 1 copied out, its next gather started
  sl_exec
  sl_step
  -- the invariant, one trip on
  rw [if_neg (Nat.succ_ne_zero k.val), if_neg (Nat.succ_ne_zero k.val), Nat.add_sub_cancel, tFin_val]
  unfold oFl0 oFl1
  isplitr; · iexact Hmw
  isplitl [FG0 Hix0 FG1 Hix1]
  · iexists _; iexists _
    isplitl [FG0 Hix0]
    · isplitl [FG0]; · iexact FG0
      iexact Hix0
    · isplitl [FG1]; · iexact FG1
      iexact Hix1
  isplitl [Hrw]; · iexists _; iexact Hrw
  isplitl [Hsh0]; · iexact Hsh0
  isplitl [Hsh1]; · iexact Hsh1
  isplitl [Hso0 Hso1 Hob]
  · iexists _; iexists _; iexists _; iexists _; iexists _
    isplitl [Hso0]; · iexact Hso0
    isplitl [Hso1]; · iexact Hso1
    iexact Hob
  isplitl [Hrest]; · iapply (rows_step0 (F := F) (U := U) d L k hk); iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
/-- A later trip: the previous trip's two copy-outs are pending. -/
theorem tripS (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k0_t1_loop.trips) (hk : k.val ≠ 0) (x : PUnit) :
    tripInv (U := U) d L Tx Ix O W k.val x
      ⊢ wp frame (wpE (defs₀ (F := F)) 𝒱₀ (V d (cV L) (jV L)) none) Set.univ
          (k0_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k x)
          fun y => tripInv (U := U) d L Tx Ix O W (k.val + 1) y := by
  have hc1 := cond1_pos k hk
  have hc2 := cond2_pos k hk
  have hrow : (k.val + 1 ≠ k.val) := Nat.succ_ne_self _
  unfold tripInv
  rw [if_neg hk, if_neg hk]
  unfold gFl0 gFl1 oFl0 oFl1
  iintro ⟨#Hmw, ⟨%fr0, %fr1, ⟨FG0, Hix0⟩, ⟨FG1, Hix1⟩⟩, ⟨%frr, Hrwr⟩, Hsh0, Hsh1, ⟨%fob, %fc0p, %fc1p, %fob0, %fob1, FO0, FO1, Hobr⟩, Hrows, ⟨%W', %hW', HO⟩⟩
  ihave Hr := (Entails.of_eq (SparseCore.bigSep_erase' (Φ := fun t' : Fin k0_t1_loop.trips => rowSt (U := U) (F := F) d L k.val t') (Finset.mem_univ k))) $$ Hrows
  icases Hr with ⟨Hrow, Hrest⟩
  ihave Hrow' := (Entails.of_eq (rowSt_ne (F := F) (U := U) d L hrow)) $$ Hrow
  icases Hrow' with ⟨⟨%fc0, Hoc0⟩, ⟨%fc1, Hoc1⟩⟩
  unfold k0_t1_body
  -- slot 0: its gather waited for
  sl_exec
  -- slot 0 of the row scratch, back from its gather, joined to what is held of the scratch
  ihave Hj := (pts_join (F := F) (U := U) (sdiff_join_disj rw_slots_disjoint) fr0 frr) $$ [FG0_dst Hrwr]
  · isplitl [FG0_dst]; · iexact FG0_dst
    iexact Hrwr
  icases Hj with ⟨%g1, Hrw⟩
  rw [sdiff_join_left rw_slots_disjoint]
  -- slot 0 of the result scratch, back from its copy-out, joined to what is held of the scratch
  ihave Hjo := (pts_join (F := F) (U := U) (sdiff_join_disj ob_slots_disjoint) fob0 fob) $$ [FO0_src Hobr]
  · isplitl [FO0_src]; · iexact FO0_src
    iexact Hobr
  icases Hjo with ⟨%go1, Hob⟩
  rw [sdiff_join_left ob_slots_disjoint]
  -- the four sums of slot 0
  sl_for (fun (_ : Nat) (_ : PUnit) => (iprop(∃ fob' : Buf (Elt F) ((V d (cV L) (jV L)).loc cc0_scratch2),
      ((rwV).view.loc (V d (cV L) (jV L)) ↦[Finset.univ \ (rwK1).view.set]{fullShare} g1)
      ∗ ((obV).view.loc (V d (cV L) (jV L)) ↦[Finset.univ \ (obK1).view.set]{fullShare} fob')) : sProp 𝕄)) $$ [Hrw Hob]
  case region =>
    intro k2 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobA, Hrw, Hob⟩
  -- slot 0 copied out, its next gather started; slot 1's gather waited for
  sl_exec
  -- slot 1 of the row scratch joined
  ihave Hj := (pts_join (F := F) (U := U) (sdiff_join_disj rw_slots_disjoint.symm) fr1 _) $$ [FG1_dst Hrw]
  · isplitl [FG1_dst]; · iexact FG1_dst
    iexact Hrw
  icases Hj with ⟨%g2, Hrw⟩
  rw [sdiff_join_left rw_slots_disjoint.symm]
  -- slot 1 of the result scratch joined
  ihave Hjo := (pts_join (F := F) (U := U) (sdiff_join_disj ob_slots_disjoint.symm) fob1 _) $$ [FO1_src Hob]
  · isplitl [FO1_src]; · iexact FO1_src
    iexact Hob
  icases Hjo with ⟨%go2, Hob⟩
  rw [sdiff_join_left ob_slots_disjoint.symm]
  -- the four sums of slot 1
  sl_for (fun (_ : Nat) (_ : PUnit) => (iprop(∃ fob' : Buf (Elt F) ((V d (cV L) (jV L)).loc cc0_scratch2),
      ((rwV).view.loc (V d (cV L) (jV L)) ↦[Finset.univ \ (rwK0).view.set]{fullShare} g2)
      ∗ ((obV).view.loc (V d (cV L) (jV L)) ↦[Finset.univ \ (obK0).view.set]{fullShare} fob')) : sProp 𝕄)) $$ [Hrw Hob]
  case region =>
    intro k3 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobB, Hrw, Hob⟩
  -- slot 1 copied out, its next gather started
  sl_exec
  sl_step
  -- the invariant, one trip on
  rw [if_neg (Nat.succ_ne_zero k.val), if_neg (Nat.succ_ne_zero k.val), Nat.add_sub_cancel, tFin_val]
  isplitr; · iexact Hmw
  isplitl [FG0 Hix0 FG1 Hix1]
  · iexists _; iexists _
    isplitl [FG0 Hix0]
    · isplitl [FG0]; · iexact FG0
      iexact Hix0
    · isplitl [FG1]; · iexact FG1
      iexact Hix1
  isplitl [Hrw]; · iexists _; iexact Hrw
  isplitl [Hsh0]; · iexact Hsh0
  isplitl [Hsh1]; · iexact Hsh1
  isplitl [FO0 FO1 Hob]
  · iexists _; iexists _; iexists _; iexists _; iexists _
    isplitl [FO0]; · iexact FO0
    isplitl [FO1]; · iexact FO1
    iexact Hob
  isplitl [Hrest FO0_dst FO1_dst]
  · iapply (rows_stepS (F := F) (U := U) d L k hk fc0p fc1p)
    isplitl [Hrest]; · iexact Hrest
    isplitl [FO0_dst]; · iexact FO0_dst
    iexact FO1_dst
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One trip of the forty. -/
theorem trip_region (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k0_t1_loop.trips) (x : PUnit) :
    tripInv (U := U) d L Tx Ix O W k.val x
      ⊢ wp frame (wpE (defs₀ (F := F)) 𝒱₀ (V d (cV L) (jV L)) none) Set.univ
          (k0_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k x)
          fun y => tripInv (U := U) d L Tx Ix O W (k.val + 1) y := by
  by_cases hk : k.val = 0
  · exact trip0 (F := F) (U := U) d L Tx Ix hinR O W v2 k hk x
  · exact tripS (F := F) (U := U) d L Tx Ix hinR O W v2 k hk x

end Body
end Cert.Proof.TileB
end
-- ==== Proof.BodyStepVK.lean ====
/-
  Small steps for the valued trips: joining pieces while keeping a piece's contents, the slots' elements, the chunk rows'
  three states and their update from trip to trip.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsK
import proofs.«205366_g3083786518796_cont_9to1_852_38_alg».proof.Proof.BodyLemmasK
import proofs.«205366_g3083786518796_cont_9to1_852_38_alg».proof.Proof.BodyInvK
import proofs.«205366_g3083786518796_cont_9to1_852_38_alg».proof.Proof.BodyJoinK
import proofs.«205366_g3083786518796_cont_9to1_852_38_alg».proof.Proof.GSumK
import proofs.«205366_g3083786518796_cont_9to1_852_38_alg».proof.Proof.BodyInvVK
import proofs.«205366_g3083786518796_cont_9to1_852_38_alg».proof.Proof.BodyTripK
import Idealize.ShloMosaic.Lib.ValueIdx

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

section Body
variable (d : Dev nD) (L : grid0.Coords)

open Idealize.ShloMosaic.ValueIdx (ix1 ix2 ix3)

/-- Two pieces joined, the join keeping the first piece's contents on its elements. -/
theorem pts_joinV {ℓ : Loc nD τ sig} {q : PosShare TreeShare} {A B : Finset (Idx ℓ)} (h : Disjoint A B) (f g : Buf (Elt F) ℓ) :
    iprop((ℓ ↦[A]{q} f) ∗ (ℓ ↦[B]{q} g)) ⊢ (iprop(∃ h : Buf (Elt F) ℓ, ⌜∀ i ∈ A, h i = f i⌝ ∗ (ℓ ↦[A ∪ B]{q} h)) : sProp 𝕄) := by
  classical
  have e1 : (ℓ ↦[A]{q} f : sProp 𝕄) = ℓ ↦[A]{q} (fun i => if i ∈ A then f i else g i) := pointsTo_congr fun i hi => by simp [hi]
  have e2 : (ℓ ↦[B]{q} g : sProp 𝕄) = ℓ ↦[B]{q} (fun i => if i ∈ A then f i else g i) := pointsTo_congr fun i hi => by
    have : i ∉ A := fun ha => (Finset.disjoint_left.mp h ha hi)
    simp [this]
  iintro ⟨HA, HB⟩
  iexists (fun i => if i ∈ A then f i else g i)
  isplitr
  · ipureintro; intro i hi; simp [hi]
  ihave HA' := (Entails.of_eq e1) $$ HA
  ihave HB' := (Entails.of_eq e2) $$ HB
  iapply (pointsTo_split_subset (S := A ∪ B) (I := A) Finset.subset_union_left).2
  isplitl [HA']; · iexact HA'
  rw [Finset.union_sdiff_cancel_left h]; iexact HB'

theorem mem_rwK0 (r j : Fin 128) : (ix3 (0 : Fin 2) r j : S2x128x128.Idx) ∈ (rwK0).view.set := by
  rw [set_rwK0, Rect.mem_set_unit]
  intro a
  match a with
  | 0 => exact ⟨Nat.le_refl _, by show (0 : ℕ) < 0 + 1; omega⟩
  | 1 => exact ⟨Nat.zero_le _, by simpa using r.isLt⟩
  | 2 => exact ⟨Nat.zero_le _, by simpa using j.isLt⟩
theorem mem_rwK1 (r j : Fin 128) : (ix3 (1 : Fin 2) r j : S2x128x128.Idx) ∈ (rwK1).view.set := by
  rw [set_rwK1, Rect.mem_set_unit]
  intro a
  match a with
  | 0 => exact ⟨Nat.le_refl _, by show (1 : ℕ) < 1 + 1; omega⟩
  | 1 => exact ⟨Nat.zero_le _, by simpa using r.isLt⟩
  | 2 => exact ⟨Nat.zero_le _, by simpa using j.isLt⟩

section V
variable (Tx : S10000x128.Idx → Elt F .f32) (Ix : S32x10496.Idx → Elt F .i32)

theorem RowsOK_of_eq0 {n : ℕ} {f h : S2x128x128.Idx → Elt F .f32} (hf : RowsOK L Tx Ix 0 n f) (he : ∀ i ∈ (rwK0).view.set, h i = f i) : RowsOK L Tx Ix 0 n h :=
  fun r j => (he _ (mem_rwK0 r j)).trans (hf r j)
theorem RowsOK_of_eq1 {n : ℕ} {f h : S2x128x128.Idx → Elt F .f32} (hf : RowsOK L Tx Ix 1 n f) (he : ∀ i ∈ (rwK1).view.set, h i = f i) : RowsOK L Tx Ix 1 n h :=
  fun r j => (he _ (mem_rwK1 r j)).trans (hf r j)
theorem SumsOK_zero (b : Fin 2) (n : ℕ) (fob : S2x4x128.Idx → Elt F .f32) : SumsOK L Tx Ix b n 0 fob := fun _ _ h => absurd h (Nat.not_lt_zero _)

theorem rowStV_eq {t : ℕ} {t' : Fin k0_t1_loop.trips} (h : t'.val + 1 = t) : (rowStV (U := U) (F := F) d L Tx Ix t t' : sProp 𝕄) = iprop(emp) := by
  unfold rowStV; rw [if_pos h]
theorem rowStV_done {t : ℕ} {t' : Fin k0_t1_loop.trips} (h : t'.val + 1 ≠ t) (h2 : t'.val < t) :
    (rowStV (U := U) (F := F) d L Tx Ix t t' : sProp 𝕄)
      = iprop((∃ f, ⌜ChunkOK L Tx Ix t' 0 f⌝ ∗ ((oChunkK L t' 0).view.loc (V d (cV L) (jV L)) ↦[(oChunkK L t' 0).view.set]{fullShare} f))
        ∗ (∃ f, ⌜ChunkOK L Tx Ix t' 1 f⌝ ∗ ((oChunkK L t' 1).view.loc (V d (cV L) (jV L)) ↦[(oChunkK L t' 1).view.set]{fullShare} f))) := by
  unfold rowStV; rw [if_neg h, if_pos h2]
theorem rowStV_todo {t : ℕ} {t' : Fin k0_t1_loop.trips} (h : t'.val + 1 ≠ t) (h2 : ¬ t'.val < t) :
    (rowStV (U := U) (F := F) d L Tx Ix t t' : sProp 𝕄)
      = iprop((∃ f, (oChunkK L t' 0).view.loc (V d (cV L) (jV L)) ↦[(oChunkK L t' 0).view.set]{fullShare} f)
        ∗ (∃ f, (oChunkK L t' 1).view.loc (V d (cV L) (jV L)) ↦[(oChunkK L t' 1).view.set]{fullShare} f)) := by
  unfold rowStV; rw [if_neg h, if_neg h2]

/-- The chunk rows after the first trip. -/
theorem rows_step0V (k : Fin k0_t1_loop.trips) (hk : k.val = 0) :
    (bigSep (Finset.univ.erase k) fun t' : Fin k0_t1_loop.trips => rowStV (U := U) (F := F) d L Tx Ix k.val t')
    ⊢ bigSep Finset.univ fun t' : Fin k0_t1_loop.trips => rowStV (U := U) (F := F) d L Tx Ix (k.val + 1) t' := by
  have hrest : Idealize.SL.BI.Entails
      (bigSep (Finset.univ.erase k) fun t' : Fin k0_t1_loop.trips => rowStV (U := U) (F := F) d L Tx Ix k.val t')
      (bigSep (Finset.univ.erase k) fun t' : Fin k0_t1_loop.trips => rowStV (U := U) (F := F) d L Tx Ix (k.val + 1) t') :=
    bigSep_mono fun t' ht' => by
      have hne : t' ≠ k := (Finset.mem_erase.mp ht').1
      have hv : t'.val ≠ k.val := fun h => hne (Fin.ext h)
      rw [rowStV_todo (F := F) (U := U) d L Tx Ix (show t'.val + 1 ≠ k.val by omega) (show ¬ t'.val < k.val by omega),
        rowStV_todo (F := F) (U := U) d L Tx Ix (show t'.val + 1 ≠ k.val + 1 by omega) (show ¬ t'.val < k.val + 1 by omega)]
      exact BI.Entails.refl _
  iintro H
  iapply (Entails.of_eq (SparseCore.bigSep_erase' (Φ := fun t' : Fin k0_t1_loop.trips => rowStV (U := U) (F := F) d L Tx Ix (k.val + 1) t') (Finset.mem_univ k)).symm)
  isplitr
  · rw [rowStV_eq (F := F) (U := U) d L Tx Ix rfl]; iempintro
  · iapply (SparseCore.ent hrest) $$ H

/-- The chunk rows after a later trip: the previous trip's two chunks are back, holding their sums. -/
theorem rows_stepSV (k : Fin k0_t1_loop.trips) (hk : k.val ≠ 0)
    (fc0 : Buf (Elt F) ((oChunkK L (tFin (k.val - 1)) 0).view.loc (V d (cV L) (jV L))))
    (fc1 : Buf (Elt F) ((oChunkK L (tFin (k.val - 1)) 1).view.loc (V d (cV L) (jV L))))
    (h0 : ChunkOK L Tx Ix (tFin (k.val - 1)) 0 fc0) (h1 : ChunkOK L Tx Ix (tFin (k.val - 1)) 1 fc1) :
    iprop((bigSep (Finset.univ.erase k) fun t' : Fin k0_t1_loop.trips => rowStV (U := U) (F := F) d L Tx Ix k.val t')
      ∗ ((oChunkK L (tFin (k.val - 1)) 0).view.loc (V d (cV L) (jV L)) ↦[(oChunkK L (tFin (k.val - 1)) 0).view.set]{fullShare} fc0)
      ∗ ((oChunkK L (tFin (k.val - 1)) 1).view.loc (V d (cV L) (jV L)) ↦[(oChunkK L (tFin (k.val - 1)) 1).view.set]{fullShare} fc1))
    ⊢ bigSep Finset.univ fun t' : Fin k0_t1_loop.trips => rowStV (U := U) (F := F) d L Tx Ix (k.val + 1) t' := by
  have h40 := lt_of_lt_of_eq k.isLt k0_trips_eq
  have hkm : (tFin (k.val - 1)).val + 1 = k.val := by show min (k.val - 1) 39 + 1 = k.val; omega
  have hne : tFin (k.val - 1) ≠ k := fun h => by have := congrArg Fin.val h; omega
  have hmem : tFin (k.val - 1) ∈ Finset.univ.erase k := Finset.mem_erase.mpr ⟨hne, Finset.mem_univ _⟩
  have hrest : Idealize.SL.BI.Entails
      (bigSep ((Finset.univ.erase k).erase (tFin (k.val - 1))) fun t' : Fin k0_t1_loop.trips => rowStV (U := U) (F := F) d L Tx Ix k.val t')
      (bigSep ((Finset.univ.erase k).erase (tFin (k.val - 1))) fun t' : Fin k0_t1_loop.trips => rowStV (U := U) (F := F) d L Tx Ix (k.val + 1) t') :=
    bigSep_mono fun t' ht' => by
      have h1' : t' ≠ tFin (k.val - 1) := (Finset.mem_erase.mp ht').1
      have h2' : t' ≠ k := (Finset.mem_erase.mp (Finset.mem_erase.mp ht').2).1
      have e1 : t'.val + 1 ≠ k.val := fun h => h1' (Fin.ext (by omega))
      have e2 : t'.val ≠ k.val := fun h => h2' (Fin.ext h)
      by_cases hlt : t'.val < k.val
      · rw [rowStV_done (F := F) (U := U) d L Tx Ix e1 hlt, rowStV_done (F := F) (U := U) d L Tx Ix (show t'.val + 1 ≠ k.val + 1 by omega) (show t'.val < k.val + 1 by omega)]
        exact BI.Entails.refl _
      · rw [rowStV_todo (F := F) (U := U) d L Tx Ix e1 hlt, rowStV_todo (F := F) (U := U) d L Tx Ix (show t'.val + 1 ≠ k.val + 1 by omega) (show ¬ t'.val < k.val + 1 by omega)]
        exact BI.Entails.refl _
  iintro ⟨H, H0, H1⟩
  ihave Hs := (Entails.of_eq (SparseCore.bigSep_erase' (Φ := fun t' : Fin k0_t1_loop.trips => rowStV (U := U) (F := F) d L Tx Ix k.val t') hmem)) $$ H
  icases Hs with ⟨-, Hrest⟩
  iapply (Entails.of_eq (SparseCore.bigSep_erase' (Φ := fun t' : Fin k0_t1_loop.trips => rowStV (U := U) (F := F) d L Tx Ix (k.val + 1) t') (Finset.mem_univ k)).symm)
  isplitr
  · rw [rowStV_eq (F := F) (U := U) d L Tx Ix rfl]; iempintro
  iapply (Entails.of_eq (SparseCore.bigSep_erase' (Φ := fun t' : Fin k0_t1_loop.trips => rowStV (U := U) (F := F) d L Tx Ix (k.val + 1) t') hmem).symm)
  isplitl [H0 H1]
  · rw [rowStV_done (F := F) (U := U) d L Tx Ix (show (tFin (k.val - 1)).val + 1 ≠ k.val + 1 by omega) (show (tFin (k.val - 1)).val < k.val + 1 by omega)]
    isplitl [H0]
    · iexists fc0; isplitr; · ipureintro; exact h0
      iexact H0
    · iexists fc1; isplitr; · ipureintro; exact h1
      iexact H1
  · iapply (SparseCore.ent hrest) $$ Hrest

end V

end Body
end Cert.Proof.TileB
end
-- ==== Proof.ScTreeK.lean ====
import proofs.«205366_g3083786518796_cont_9to1_852_38_alg».proof.Proof.ScPayK
import proofs.«205366_g3083786518796_cont_9to1_852_38_alg».proof.Proof.Gen.Kernel.Skeleton
import Idealize.ShloMosaic.Lib.ValueIdx
import Idealize.ShloMosaic.Lib.Pipeline.Value

noncomputable section

/-!
# The tile's sum of 32 rows is the balanced tree, lane by lane

For one output row and one group of 16 lanes the tile loads 32 vectors (each a [1,1,16] slice, cast to [16]), adds
them in five levels of pairwise sums — (v0+v1), (v2+v3), …, then pairs of those, and so on — and stores the result
cast back to [1,1,16].  Lane `l` of what is stored is the same tree of the 32 numbers at lane `l`.
-/

namespace Cert.Proof.KB

open Cert.Kernel Cert.Kernel.Gen
open Idealize.ShloMosaic Idealize.ShloMosaic.ValueIdx

variable {F : FTy → Type} [FloatOps F]

/-- The two casts between [1,1,16] and [16] keep the lane. -/
theorem cast_16 (x : Vec F S1x1x16 .f32) (l : Fin 16) :
    (shapeCast S16 x shapeCasts_S1x1x16_S16 : FVec F S16 .f32) (ix1 l) = x (ix3 (0 : Fin 1) (0 : Fin 1) l) :=
  shapeCast_apply x shapeCasts_S1x1x16_S16 (ix1 l) (ix3 (0 : Fin 1) (0 : Fin 1) l) (by
    rw [Shape.rowMajor_val_three, Shape.rowMajor_val_one]
    show (0 * 1 + 0) * 16 + l.val = l.val
    omega)
theorem cast_116 (y : FVec F S16 .f32) (l : Fin 16) :
    (shapeCast S1x1x16 y shapeCasts_S16_S1x1x16 : FVec F S1x1x16 .f32) (ix3 (0 : Fin 1) (0 : Fin 1) l) = y (ix1 l) :=
  shapeCast_apply y shapeCasts_S16_S1x1x16 (ix3 (0 : Fin 1) (0 : Fin 1) l) (ix1 l) (by
    rw [Shape.rowMajor_val_three, Shape.rowMajor_val_one]
    show l.val = (0 * 1 + 0) * 16 + l.val
    omega)

/-- The five levels of pairwise sums, on 16-lane vectors. -/
def treeV (v : Fin 32 → FVec F S16 .f32) : FVec F S16 .f32 :=
  let l1 : Fin 16 → FVec F S16 .f32 := fun t => addf (v ⟨2 * t.val, by omega⟩) (v ⟨2 * t.val + 1, by omega⟩)
  let l2 : Fin 8 → FVec F S16 .f32 := fun t => addf (l1 ⟨2 * t.val, by omega⟩) (l1 ⟨2 * t.val + 1, by omega⟩)
  let l3 : Fin 4 → FVec F S16 .f32 := fun t => addf (l2 ⟨2 * t.val, by omega⟩) (l2 ⟨2 * t.val + 1, by omega⟩)
  let l4 : Fin 2 → FVec F S16 .f32 := fun t => addf (l3 ⟨2 * t.val, by omega⟩) (l3 ⟨2 * t.val + 1, by omega⟩)
  addf (l4 0) (l4 1)

/-- Lane by lane it is the tree of the 32 numbers. -/
theorem treeV_apply (v : Fin 32 → FVec F S16 .f32) (j : S16.Idx) : treeV v j = tree32 fun k => v k j := rfl

/-- The stored vector of the cast loads: lane `l` is the tree of the 32 loaded numbers at lane `l`. -/
theorem stored_tree (L : Fin 32 → Vec F S1x1x16 .f32) (l : Fin 16) :
    (shapeCast S1x1x16 (treeV fun k => (shapeCast S16 (L k) shapeCasts_S1x1x16_S16 : FVec F S16 .f32)) shapeCasts_S16_S1x1x16 : FVec F S1x1x16 .f32)
        (ix3 (0 : Fin 1) (0 : Fin 1) l)
      = tree32 fun k => L k (ix3 (0 : Fin 1) (0 : Fin 1) l) :=
  (cast_116 _ l).trans ((treeV_apply _ (ix1 l)).trans (congrArg tree32 (funext fun k => cast_16 (L k) l)))

set_option maxRecDepth 4096 in
/-- Lane group 0 of the first loop: the store's payload of the 32 loads (29 cast by the earlier payloads, 3 cast inside)
    is that stored vector. -/
theorem k0_pay30_eq (L : Fin 32 → Vec F S1x1x16 .f32) :
    k0_pay30 (k0_pay1 (L 0)) (k0_pay2 (L 1)) (k0_pay3 (L 2)) (k0_pay4 (L 3)) (k0_pay5 (L 4)) (k0_pay6 (L 5)) (k0_pay7 (L 6)) (k0_pay8 (L 7)) (k0_pay9 (L 8)) (k0_pay10 (L 9)) (k0_pay11 (L 10)) (k0_pay12 (L 11)) (k0_pay13 (L 12)) (k0_pay14 (L 13)) (k0_pay15 (L 14)) (k0_pay16 (L 15)) (k0_pay17 (L 16)) (k0_pay18 (L 17)) (k0_pay19 (L 18)) (k0_pay20 (L 19)) (k0_pay21 (L 20)) (k0_pay22 (L 21)) (k0_pay23 (L 22)) (k0_pay24 (L 23)) (k0_pay25 (L 24)) (k0_pay26 (L 25)) (k0_pay27 (L 26)) (k0_pay28 (L 27)) (k0_pay29 (L 28)) (L 29) (L 30) (L 31)
      = shapeCast S1x1x16 (treeV fun k => (shapeCast S16 (L k) shapeCasts_S1x1x16_S16 : FVec F S16 .f32)) shapeCasts_S16_S1x1x16 := rfl

theorem k0_pay30_loads (L : Fin 32 → Vec F S1x1x16 .f32) (l : Fin 16) :
    k0_pay30 (k0_pay1 (L 0)) (k0_pay2 (L 1)) (k0_pay3 (L 2)) (k0_pay4 (L 3)) (k0_pay5 (L 4)) (k0_pay6 (L 5)) (k0_pay7 (L 6)) (k0_pay8 (L 7)) (k0_pay9 (L 8)) (k0_pay10 (L 9)) (k0_pay11 (L 10)) (k0_pay12 (L 11)) (k0_pay13 (L 12)) (k0_pay14 (L 13)) (k0_pay15 (L 14)) (k0_pay16 (L 15)) (k0_pay17 (L 16)) (k0_pay18 (L 17)) (k0_pay19 (L 18)) (k0_pay20 (L 19)) (k0_pay21 (L 20)) (k0_pay22 (L 21)) (k0_pay23 (L 22)) (k0_pay24 (L 23)) (k0_pay25 (L 24)) (k0_pay26 (L 25)) (k0_pay27 (L 26)) (k0_pay28 (L 27)) (k0_pay29 (L 28)) (L 29) (L 30) (L 31) (ix3 (0 : Fin 1) (0 : Fin 1) l)
      = tree32 fun k => L k (ix3 (0 : Fin 1) (0 : Fin 1) l) := by
  rw [k0_pay30_eq]
  exact stored_tree L l

end Cert.Proof.KB

end
-- ==== Proof.ScTree0K.lean ====
import proofs.«205366_g3083786518796_cont_9to1_852_38_alg».proof.Proof.ScTreeK

noncomputable section

/-!
# The first SparseCore kernel's summing payloads, read at a lane

For every payload of the kernel that adds vectors: `_lane` says the payload at lane `l` is the same pairwise sums of its
arguments' lanes.  For a store's payload (and for the last partial payload of lane group 7, which takes the sixteen
first-level sums): `_tree` says it is `tree32 w` once each argument's lane is known to be the sub-tree of `w` over the
positions that argument stands for — one load, or an earlier part's sum of 2, 4, … loads.
-/

namespace Cert.Proof.KB

open Cert.Kernel Cert.Kernel.Gen
open Idealize.ShloMosaic Idealize.ShloMosaic.ValueIdx

variable {F : FTy → Type} [FloatOps F]

theorem k0_pay1_lane (v114 : Vec F S1x1x16 .f32) (l : Fin 16) :
    k0_pay1 v114 (ix1 l) = v114 (ix3 (0 : Fin 1) (0 : Fin 1) l) := by
  unfold k0_pay1
  exact cast_16 v114 l

theorem k0_pay2_lane (v119 : Vec F S1x1x16 .f32) (l : Fin 16) :
    k0_pay2 v119 (ix1 l) = v119 (ix3 (0 : Fin 1) (0 : Fin 1) l) := by
  unfold k0_pay2
  exact cast_16 v119 l

theorem k0_pay3_lane (v124 : Vec F S1x1x16 .f32) (l : Fin 16) :
    k0_pay3 v124 (ix1 l) = v124 (ix3 (0 : Fin 1) (0 : Fin 1) l) := by
  unfold k0_pay3
  exact cast_16 v124 l

theorem k0_pay4_lane (v129 : Vec F S1x1x16 .f32) (l : Fin 16) :
    k0_pay4 v129 (ix1 l) = v129 (ix3 (0 : Fin 1) (0 : Fin 1) l) := by
  unfold k0_pay4
  exact cast_16 v129 l

theorem k0_pay5_lane (v134 : Vec F S1x1x16 .f32) (l : Fin 16) :
    k0_pay5 v134 (ix1 l) = v134 (ix3 (0 : Fin 1) (0 : Fin 1) l) := by
  unfold k0_pay5
  exact cast_16 v134 l

theorem k0_pay6_lane (v139 : Vec F S1x1x16 .f32) (l : Fin 16) :
    k0_pay6 v139 (ix1 l) = v139 (ix3 (0 : Fin 1) (0 : Fin 1) l) := by
  unfold k0_pay6
  exact cast_16 v139 l

theorem k0_pay7_lane (v144 : Vec F S1x1x16 .f32) (l : Fin 16) :
    k0_pay7 v144 (ix1 l) = v144 (ix3 (0 : Fin 1) (0 : Fin 1) l) := by
  unfold k0_pay7
  exact cast_16 v144 l

theorem k0_pay8_lane (v149 : Vec F S1x1x16 .f32) (l : Fin 16) :
    k0_pay8 v149 (ix1 l) = v149 (ix3 (0 : Fin 1) (0 : Fin 1) l) := by
  unfold k0_pay8
  exact cast_16 v149 l

theorem k0_pay9_lane (v154 : Vec F S1x1x16 .f32) (l : Fin 16) :
    k0_pay9 v154 (ix1 l) = v154 (ix3 (0 : Fin 1) (0 : Fin 1) l) := by
  unfold k0_pay9
  exact cast_16 v154 l

theorem k0_pay10_lane (v159 : Vec F S1x1x16 .f32) (l : Fin 16) :
    k0_pay10 v159 (ix1 l) = v159 (ix3 (0 : Fin 1) (0 : Fin 1) l) := by
  unfold k0_pay10
  exact cast_16 v159 l

theorem k0_pay11_lane (v164 : Vec F S1x1x16 .f32) (l : Fin 16) :
    k0_pay11 v164 (ix1 l) = v164 (ix3 (0 : Fin 1) (0 : Fin 1) l) := by
  unfold k0_pay11
  exact cast_16 v164 l

theorem k0_pay12_lane (v169 : Vec F S1x1x16 .f32) (l : Fin 16) :
    k0_pay12 v169 (ix1 l) = v169 (ix3 (0 : Fin 1) (0 : Fin 1) l) := by
  unfold k0_pay12
  exact cast_16 v169 l

theorem k0_pay13_lane (v174 : Vec F S1x1x16 .f32) (l : Fin 16) :
    k0_pay13 v174 (ix1 l) = v174 (ix3 (0 : Fin 1) (0 : Fin 1) l) := by
  unfold k0_pay13
  exact cast_16 v174 l

theorem k0_pay14_lane (v179 : Vec F S1x1x16 .f32) (l : Fin 16) :
    k0_pay14 v179 (ix1 l) = v179 (ix3 (0 : Fin 1) (0 : Fin 1) l) := by
  unfold k0_pay14
  exact cast_16 v179 l

theorem k0_pay15_lane (v184 : Vec F S1x1x16 .f32) (l : Fin 16) :
    k0_pay15 v184 (ix1 l) = v184 (ix3 (0 : Fin 1) (0 : Fin 1) l) := by
  unfold k0_pay15
  exact cast_16 v184 l

theorem k0_pay16_lane (v189 : Vec F S1x1x16 .f32) (l : Fin 16) :
    k0_pay16 v189 (ix1 l) = v189 (ix3 (0 : Fin 1) (0 : Fin 1) l) := by
  unfold k0_pay16
  exact cast_16 v189 l

theorem k0_pay17_lane (v194 : Vec F S1x1x16 .f32) (l : Fin 16) :
    k0_pay17 v194 (ix1 l) = v194 (ix3 (0 : Fin 1) (0 : Fin 1) l) := by
  unfold k0_pay17
  exact cast_16 v194 l

theorem k0_pay18_lane (v199 : Vec F S1x1x16 .f32) (l : Fin 16) :
    k0_pay18 v199 (ix1 l) = v199 (ix3 (0 : Fin 1) (0 : Fin 1) l) := by
  unfold k0_pay18
  exact cast_16 v199 l

theorem k0_pay19_lane (v204 : Vec F S1x1x16 .f32) (l : Fin 16) :
    k0_pay19 v204 (ix1 l) = v204 (ix3 (0 : Fin 1) (0 : Fin 1) l) := by
  unfold k0_pay19
  exact cast_16 v204 l

theorem k0_pay20_lane (v209 : Vec F S1x1x16 .f32) (l : Fin 16) :
    k0_pay20 v209 (ix1 l) = v209 (ix3 (0 : Fin 1) (0 : Fin 1) l) := by
  unfold k0_pay20
  exact cast_16 v209 l

theorem k0_pay21_lane (v214 : Vec F S1x1x16 .f32) (l : Fin 16) :
    k0_pay21 v214 (ix1 l) = v214 (ix3 (0 : Fin 1) (0 : Fin 1) l) := by
  unfold k0_pay21
  exact cast_16 v214 l

theorem k0_pay22_lane (v219 : Vec F S1x1x16 .f32) (l : Fin 16) :
    k0_pay22 v219 (ix1 l) = v219 (ix3 (0 : Fin 1) (0 : Fin 1) l) := by
  unfold k0_pay22
  exact cast_16 v219 l

theorem k0_pay23_lane (v224 : Vec F S1x1x16 .f32) (l : Fin 16) :
    k0_pay23 v224 (ix1 l) = v224 (ix3 (0 : Fin 1) (0 : Fin 1) l) := by
  unfold k0_pay23
  exact cast_16 v224 l

theorem k0_pay24_lane (v229 : Vec F S1x1x16 .f32) (l : Fin 16) :
    k0_pay24 v229 (ix1 l) = v229 (ix3 (0 : Fin 1) (0 : Fin 1) l) := by
  unfold k0_pay24
  exact cast_16 v229 l

theorem k0_pay25_lane (v234 : Vec F S1x1x16 .f32) (l : Fin 16) :
    k0_pay25 v234 (ix1 l) = v234 (ix3 (0 : Fin 1) (0 : Fin 1) l) := by
  unfold k0_pay25
  exact cast_16 v234 l

theorem k0_pay26_lane (v239 : Vec F S1x1x16 .f32) (l : Fin 16) :
    k0_pay26 v239 (ix1 l) = v239 (ix3 (0 : Fin 1) (0 : Fin 1) l) := by
  unfold k0_pay26
  exact cast_16 v239 l

theorem k0_pay27_lane (v244 : Vec F S1x1x16 .f32) (l : Fin 16) :
    k0_pay27 v244 (ix1 l) = v244 (ix3 (0 : Fin 1) (0 : Fin 1) l) := by
  unfold k0_pay27
  exact cast_16 v244 l

theorem k0_pay28_lane (v249 : Vec F S1x1x16 .f32) (l : Fin 16) :
    k0_pay28 v249 (ix1 l) = v249 (ix3 (0 : Fin 1) (0 : Fin 1) l) := by
  unfold k0_pay28
  exact cast_16 v249 l

theorem k0_pay29_lane (v254 : Vec F S1x1x16 .f32) (l : Fin 16) :
    k0_pay29 v254 (ix1 l) = v254 (ix3 (0 : Fin 1) (0 : Fin 1) l) := by
  unfold k0_pay29
  exact cast_16 v254 l

theorem k0_pay30_lane (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (l : Fin 16) :
    k0_pay30 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = FloatOps.addf (FloatOps.addf (FloatOps.addf (FloatOps.addf (FloatOps.addf (v115 (ix1 l)) (v120 (ix1 l))) (FloatOps.addf (v125 (ix1 l)) (v130 (ix1 l)))) (FloatOps.addf (FloatOps.addf (v135 (ix1 l)) (v140 (ix1 l))) (FloatOps.addf (v145 (ix1 l)) (v150 (ix1 l))))) (FloatOps.addf (FloatOps.addf (FloatOps.addf (v155 (ix1 l)) (v160 (ix1 l))) (FloatOps.addf (v165 (ix1 l)) (v170 (ix1 l)))) (FloatOps.addf (FloatOps.addf (v175 (ix1 l)) (v180 (ix1 l))) (FloatOps.addf (v185 (ix1 l)) (v190 (ix1 l)))))) (FloatOps.addf (FloatOps.addf (FloatOps.addf (FloatOps.addf (v195 (ix1 l)) (v200 (ix1 l))) (FloatOps.addf (v205 (ix1 l)) (v210 (ix1 l)))) (FloatOps.addf (FloatOps.addf (v215 (ix1 l)) (v220 (ix1 l))) (FloatOps.addf (v225 (ix1 l)) (v230 (ix1 l))))) (FloatOps.addf (FloatOps.addf (FloatOps.addf (v235 (ix1 l)) (v240 (ix1 l))) (FloatOps.addf (v245 (ix1 l)) (v250 (ix1 l)))) (FloatOps.addf (FloatOps.addf (v255 (ix1 l)) (v259 (ix3 (0 : Fin 1) (0 : Fin 1) l))) (FloatOps.addf (v264 (ix3 (0 : Fin 1) (0 : Fin 1) l)) (v269 (ix3 (0 : Fin 1) (0 : Fin 1) l)))))) := by
  unfold k0_pay30
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (cast_16 v259 l)) (congrArg₂ FloatOps.addf (cast_16 v264 l) (cast_16 v269 l)))))

theorem k0_pay30_tree (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (w : Fin 32 → F .f32) (l : Fin 16)
    (h_v115 : v115 (ix1 l) = w 0)
    (h_v120 : v120 (ix1 l) = w 1)
    (h_v125 : v125 (ix1 l) = w 2)
    (h_v130 : v130 (ix1 l) = w 3)
    (h_v135 : v135 (ix1 l) = w 4)
    (h_v140 : v140 (ix1 l) = w 5)
    (h_v145 : v145 (ix1 l) = w 6)
    (h_v150 : v150 (ix1 l) = w 7)
    (h_v155 : v155 (ix1 l) = w 8)
    (h_v160 : v160 (ix1 l) = w 9)
    (h_v165 : v165 (ix1 l) = w 10)
    (h_v170 : v170 (ix1 l) = w 11)
    (h_v175 : v175 (ix1 l) = w 12)
    (h_v180 : v180 (ix1 l) = w 13)
    (h_v185 : v185 (ix1 l) = w 14)
    (h_v190 : v190 (ix1 l) = w 15)
    (h_v195 : v195 (ix1 l) = w 16)
    (h_v200 : v200 (ix1 l) = w 17)
    (h_v205 : v205 (ix1 l) = w 18)
    (h_v210 : v210 (ix1 l) = w 19)
    (h_v215 : v215 (ix1 l) = w 20)
    (h_v220 : v220 (ix1 l) = w 21)
    (h_v225 : v225 (ix1 l) = w 22)
    (h_v230 : v230 (ix1 l) = w 23)
    (h_v235 : v235 (ix1 l) = w 24)
    (h_v240 : v240 (ix1 l) = w 25)
    (h_v245 : v245 (ix1 l) = w 26)
    (h_v250 : v250 (ix1 l) = w 27)
    (h_v255 : v255 (ix1 l) = w 28)
    (h_v259 : v259 (ix3 (0 : Fin 1) (0 : Fin 1) l) = w 29)
    (h_v264 : v264 (ix3 (0 : Fin 1) (0 : Fin 1) l) = w 30)
    (h_v269 : v269 (ix3 (0 : Fin 1) (0 : Fin 1) l) = w 31) :
    k0_pay30 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = tree32 w := by
  unfold k0_pay30
  refine (cast_116 _ l).trans ?_
  exact congrArg₂ FloatOps.addf (congrArg₂ FloatOps.addf (congrArg₂ FloatOps.addf (congrArg₂ FloatOps.addf (congrArg₂ FloatOps.addf (h_v115) (h_v120)) (congrArg₂ FloatOps.addf (h_v125) (h_v130))) (congrArg₂ FloatOps.addf (congrArg₂ FloatOps.addf (h_v135) (h_v140)) (congrArg₂ FloatOps.addf (h_v145) (h_v150)))) (congrArg₂ FloatOps.addf (congrArg₂ FloatOps.addf (congrArg₂ FloatOps.addf (h_v155) (h_v160)) (congrArg₂ FloatOps.addf (h_v165) (h_v170))) (congrArg₂ FloatOps.addf (congrArg₂ FloatOps.addf (h_v175) (h_v180)) (congrArg₂ FloatOps.addf (h_v185) (h_v190))))) (congrArg₂ FloatOps.addf (congrArg₂ FloatOps.addf (congrArg₂ FloatOps.addf (congrArg₂ FloatOps.addf (h_v195) (h_v200)) (congrArg₂ FloatOps.addf (h_v205) (h_v210))) (congrArg₂ FloatOps.addf (congrArg₂ FloatOps.addf (h_v215) (h_v220)) (congrArg₂ FloatOps.addf (h_v225) (h_v230)))) (congrArg₂ FloatOps.addf (congrArg₂ FloatOps.addf (congrArg₂ FloatOps.addf (h_v235) (h_v240)) (congrArg₂ FloatOps.addf (h_v245) (h_v250))) (congrArg₂ FloatOps.addf (congrArg₂ FloatOps.addf (h_v255) ((cast_16 v259 l).trans h_v259)) (congrArg₂ FloatOps.addf ((cast_16 v264 l).trans h_v264) ((cast_16 v269 l).trans h_v269)))))

theorem k0_pay31_lane (v310 : Vec F S1x1x16 .f32) (l : Fin 16) :
    k0_pay31 v310 (ix1 l) = v310 (ix3 (0 : Fin 1) (0 : Fin 1) l) := by
  unfold k0_pay31
  exact cast_16 v310 l

theorem k0_pay32_lane (v315 : Vec F S1x1x16 .f32) (l : Fin 16) :
    k0_pay32 v315 (ix1 l) = v315 (ix3 (0 : Fin 1) (0 : Fin 1) l) := by
  unfold k0_pay32
  exact cast_16 v315 l

theorem k0_pay33_lane (v320 : Vec F S1x1x16 .f32) (l : Fin 16) :
    k0_pay33 v320 (ix1 l) = v320 (ix3 (0 : Fin 1) (0 : Fin 1) l) := by
  unfold k0_pay33
  exact cast_16 v320 l

theorem k0_pay34_lane (v325 : Vec F S1x1x16 .f32) (l : Fin 16) :
    k0_pay34 v325 (ix1 l) = v325 (ix3 (0 : Fin 1) (0 : Fin 1) l) := by
  unfold k0_pay34
  exact cast_16 v325 l

theorem k0_pay35_lane (v330 : Vec F S1x1x16 .f32) (l : Fin 16) :
    k0_pay35 v330 (ix1 l) = v330 (ix3 (0 : Fin 1) (0 : Fin 1) l) := by
  unfold k0_pay35
  exact cast_16 v330 l

theorem k0_pay36_lane (v335 : Vec F S1x1x16 .f32) (l : Fin 16) :
    k0_pay36 v335 (ix1 l) = v335 (ix3 (0 : Fin 1) (0 : Fin 1) l) := by
  unfold k0_pay36
  exact cast_16 v335 l

theorem k0_pay37_lane (v340 : Vec F S1x1x16 .f32) (l : Fin 16) :
    k0_pay37 v340 (ix1 l) = v340 (ix3 (0 : Fin 1) (0 : Fin 1) l) := by
  unfold k0_pay37
  exact cast_16 v340 l

theorem k0_pay38_lane (v345 : Vec F S1x1x16 .f32) (l : Fin 16) :
    k0_pay38 v345 (ix1 l) = v345 (ix3 (0 : Fin 1) (0 : Fin 1) l) := by
  unfold k0_pay38
  exact cast_16 v345 l

theorem k0_pay39_lane (v350 : Vec F S1x1x16 .f32) (l : Fin 16) :
    k0_pay39 v350 (ix1 l) = v350 (ix3 (0 : Fin 1) (0 : Fin 1) l) := by
  unfold k0_pay39
  exact cast_16 v350 l

theorem k0_pay40_lane (v355 : Vec F S1x1x16 .f32) (l : Fin 16) :
    k0_pay40 v355 (ix1 l) = v355 (ix3 (0 : Fin 1) (0 : Fin 1) l) := by
  unfold k0_pay40
  exact cast_16 v355 l

theorem k0_pay41_lane (v360 : Vec F S1x1x16 .f32) (l : Fin 16) :
    k0_pay41 v360 (ix1 l) = v360 (ix3 (0 : Fin 1) (0 : Fin 1) l) := by
  unfold k0_pay41
  exact cast_16 v360 l

theorem k0_pay42_lane (v365 : Vec F S1x1x16 .f32) (l : Fin 16) :
    k0_pay42 v365 (ix1 l) = v365 (ix3 (0 : Fin 1) (0 : Fin 1) l) := by
  unfold k0_pay42
  exact cast_16 v365 l

theorem k0_pay43_lane (v370 : Vec F S1x1x16 .f32) (l : Fin 16) :
    k0_pay43 v370 (ix1 l) = v370 (ix3 (0 : Fin 1) (0 : Fin 1) l) := by
  unfold k0_pay43
  exact cast_16 v370 l

theorem k0_pay44_lane (v375 : Vec F S1x1x16 .f32) (l : Fin 16) :
    k0_pay44 v375 (ix1 l) = v375 (ix3 (0 : Fin 1) (0 : Fin 1) l) := by
  unfold k0_pay44
  exact cast_16 v375 l

theorem k0_pay45_lane (v380 : Vec F S1x1x16 .f32) (l : Fin 16) :
    k0_pay45 v380 (ix1 l) = v380 (ix3 (0 : Fin 1) (0 : Fin 1) l) := by
  unfold k0_pay45
  exact cast_16 v380 l

theorem k0_pay46_lane (v385 : Vec F S1x1x16 .f32) (l : Fin 16) :
    k0_pay46 v385 (ix1 l) = v385 (ix3 (0 : Fin 1) (0 : Fin 1) l) := by
  unfold k0_pay46
  exact cast_16 v385 l

theorem k0_pay47_lane (v390 : Vec F S1x1x16 .f32) (l : Fin 16) :
    k0_pay47 v390 (ix1 l) = v390 (ix3 (0 : Fin 1) (0 : Fin 1) l) := by
  unfold k0_pay47
  exact cast_16 v390 l

theorem k0_pay48_lane (v395 : Vec F S1x1x16 .f32) (l : Fin 16) :
    k0_pay48 v395 (ix1 l) = v395 (ix3 (0 : Fin 1) (0 : Fin 1) l) := by
  unfold k0_pay48
  exact cast_16 v395 l

theorem k0_pay49_lane (v400 : Vec F S1x1x16 .f32) (l : Fin 16) :
    k0_pay49 v400 (ix1 l) = v400 (ix3 (0 : Fin 1) (0 : Fin 1) l) := by
  unfold k0_pay49
  exact cast_16 v400 l

theorem k0_pay50_lane (v405 : Vec F S1x1x16 .f32) (l : Fin 16) :
    k0_pay50 v405 (ix1 l) = v405 (ix3 (0 : Fin 1) (0 : Fin 1) l) := by
  unfold k0_pay50
  exact cast_16 v405 l

theorem k0_pay51_lane (v410 : Vec F S1x1x16 .f32) (l : Fin 16) :
    k0_pay51 v410 (ix1 l) = v410 (ix3 (0 : Fin 1) (0 : Fin 1) l) := by
  unfold k0_pay51
  exact cast_16 v410 l

theorem k0_pay52_lane (v415 : Vec F S1x1x16 .f32) (l : Fin 16) :
    k0_pay52 v415 (ix1 l) = v415 (ix3 (0 : Fin 1) (0 : Fin 1) l) := by
  unfold k0_pay52
  exact cast_16 v415 l

theorem k0_pay53_lane (v420 : Vec F S1x1x16 .f32) (l : Fin 16) :
    k0_pay53 v420 (ix1 l) = v420 (ix3 (0 : Fin 1) (0 : Fin 1) l) := by
  unfold k0_pay53
  exact cast_16 v420 l

theorem k0_pay54_lane (v425 : Vec F S1x1x16 .f32) (l : Fin 16) :
    k0_pay54 v425 (ix1 l) = v425 (ix3 (0 : Fin 1) (0 : Fin 1) l) := by
  unfold k0_pay54
  exact cast_16 v425 l

theorem k0_pay55_lane (v430 : Vec F S1x1x16 .f32) (l : Fin 16) :
    k0_pay55 v430 (ix1 l) = v430 (ix3 (0 : Fin 1) (0 : Fin 1) l) := by
  unfold k0_pay55
  exact cast_16 v430 l

theorem k0_pay56_lane (v435 : Vec F S1x1x16 .f32) (l : Fin 16) :
    k0_pay56 v435 (ix1 l) = v435 (ix3 (0 : Fin 1) (0 : Fin 1) l) := by
  unfold k0_pay56
  exact cast_16 v435 l

theorem k0_pay57_lane (v440 : Vec F S1x1x16 .f32) (l : Fin 16) :
    k0_pay57 v440 (ix1 l) = v440 (ix3 (0 : Fin 1) (0 : Fin 1) l) := by
  unfold k0_pay57
  exact cast_16 v440 l

theorem k0_pay58_lane (v445 : Vec F S1x1x16 .f32) (l : Fin 16) :
    k0_pay58 v445 (ix1 l) = v445 (ix3 (0 : Fin 1) (0 : Fin 1) l) := by
  unfold k0_pay58
  exact cast_16 v445 l

theorem k0_pay59_lane (v450 : Vec F S1x1x16 .f32) (l : Fin 16) :
    k0_pay59 v450 (ix1 l) = v450 (ix3 (0 : Fin 1) (0 : Fin 1) l) := by
  unfold k0_pay59
  exact cast_16 v450 l

theorem k0_pay60_lane (v455 : Vec F S1x1x16 .f32) (l : Fin 16) :
    k0_pay60 v455 (ix1 l) = v455 (ix3 (0 : Fin 1) (0 : Fin 1) l) := by
  unfold k0_pay60
  exact cast_16 v455 l

theorem k0_pay61_lane (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (l : Fin 16) :
    k0_pay61 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = FloatOps.addf (FloatOps.addf (FloatOps.addf (FloatOps.addf (FloatOps.addf (v311 (ix1 l)) (v316 (ix1 l))) (FloatOps.addf (v321 (ix1 l)) (v326 (ix1 l)))) (FloatOps.addf (FloatOps.addf (v331 (ix1 l)) (v336 (ix1 l))) (FloatOps.addf (v341 (ix1 l)) (v346 (ix1 l))))) (FloatOps.addf (FloatOps.addf (FloatOps.addf (v351 (ix1 l)) (v356 (ix1 l))) (FloatOps.addf (v361 (ix1 l)) (v366 (ix1 l)))) (FloatOps.addf (FloatOps.addf (v371 (ix1 l)) (v376 (ix1 l))) (FloatOps.addf (v381 (ix1 l)) (v386 (ix1 l)))))) (FloatOps.addf (FloatOps.addf (FloatOps.addf (FloatOps.addf (v391 (ix1 l)) (v396 (ix1 l))) (FloatOps.addf (v401 (ix1 l)) (v406 (ix1 l)))) (FloatOps.addf (FloatOps.addf (v411 (ix1 l)) (v416 (ix1 l))) (FloatOps.addf (v421 (ix1 l)) (v426 (ix1 l))))) (FloatOps.addf (FloatOps.addf (FloatOps.addf (v431 (ix1 l)) (v436 (ix1 l))) (FloatOps.addf (v441 (ix1 l)) (v446 (ix1 l)))) (FloatOps.addf (FloatOps.addf (v451 (ix1 l)) (v456 (ix1 l))) (FloatOps.addf (v460 (ix3 (0 : Fin 1) (0 : Fin 1) l)) (v465 (ix3 (0 : Fin 1) (0 : Fin 1) l)))))) := by
  unfold k0_pay61
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v460 l) (cast_16 v465 l)))))

theorem k0_pay61_tree (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (w : Fin 32 → F .f32) (l : Fin 16)
    (h_v311 : v311 (ix1 l) = w 0)
    (h_v316 : v316 (ix1 l) = w 1)
    (h_v321 : v321 (ix1 l) = w 2)
    (h_v326 : v326 (ix1 l) = w 3)
    (h_v331 : v331 (ix1 l) = w 4)
    (h_v336 : v336 (ix1 l) = w 5)
    (h_v341 : v341 (ix1 l) = w 6)
    (h_v346 : v346 (ix1 l) = w 7)
    (h_v351 : v351 (ix1 l) = w 8)
    (h_v356 : v356 (ix1 l) = w 9)
    (h_v361 : v361 (ix1 l) = w 10)
    (h_v366 : v366 (ix1 l) = w 11)
    (h_v371 : v371 (ix1 l) = w 12)
    (h_v376 : v376 (ix1 l) = w 13)
    (h_v381 : v381 (ix1 l) = w 14)
    (h_v386 : v386 (ix1 l) = w 15)
    (h_v391 : v391 (ix1 l) = w 16)
    (h_v396 : v396 (ix1 l) = w 17)
    (h_v401 : v401 (ix1 l) = w 18)
    (h_v406 : v406 (ix1 l) = w 19)
    (h_v411 : v411 (ix1 l) = w 20)
    (h_v416 : v416 (ix1 l) = w 21)
    (h_v421 : v421 (ix1 l) = w 22)
    (h_v426 : v426 (ix1 l) = w 23)
    (h_v431 : v431 (ix1 l) = w 24)
    (h_v436 : v436 (ix1 l) = w 25)
    (h_v441 : v441 (ix1 l) = w 26)
    (h_v446 : v446 (ix1 l) = w 27)
    (h_v451 : v451 (ix1 l) = w 28)
    (h_v456 : v456 (ix1 l) = w 29)
    (h_v460 : v460 (ix3 (0 : Fin 1) (0 : Fin 1) l) = w 30)
    (h_v465 : v465 (ix3 (0 : Fin 1) (0 : Fin 1) l) = w 31) :
    k0_pay61 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = tree32 w := by
  unfold k0_pay61
  refine (cast_116 _ l).trans ?_
  exact congrArg₂ FloatOps.addf (congrArg₂ FloatOps.addf (congrArg₂ FloatOps.addf (congrArg₂ FloatOps.addf (congrArg₂ FloatOps.addf (h_v311) (h_v316)) (congrArg₂ FloatOps.addf (h_v321) (h_v326))) (congrArg₂ FloatOps.addf (congrArg₂ FloatOps.addf (h_v331) (h_v336)) (congrArg₂ FloatOps.addf (h_v341) (h_v346)))) (congrArg₂ FloatOps.addf (congrArg₂ FloatOps.addf (congrArg₂ FloatOps.addf (h_v351) (h_v356)) (congrArg₂ FloatOps.addf (h_v361) (h_v366))) (congrArg₂ FloatOps.addf (congrArg₂ FloatOps.addf (h_v371) (h_v376)) (congrArg₂ FloatOps.addf (h_v381) (h_v386))))) (congrArg₂ FloatOps.addf (congrArg₂ FloatOps.addf (congrArg₂ FloatOps.addf (congrArg₂ FloatOps.addf (h_v391) (h_v396)) (congrArg₂ FloatOps.addf (h_v401) (h_v406))) (congrArg₂ FloatOps.addf (congrArg₂ FloatOps.addf (h_v411) (h_v416)) (congrArg₂ FloatOps.addf (h_v421) (h_v426)))) (congrArg₂ FloatOps.addf (congrArg₂ FloatOps.addf (congrArg₂ FloatOps.addf (h_v431) (h_v436)) (congrArg₂ FloatOps.addf (h_v441) (h_v446))) (congrArg₂ FloatOps.addf (congrArg₂ FloatOps.addf (h_v451) (h_v456)) (congrArg₂ FloatOps.addf ((cast_16 v460 l).trans h_v460) ((cast_16 v465 l).trans h_v465)))))

theorem k0_pay62_lane (v506 : Vec F S1x1x16 .f32) (l : Fin 16) :
    k0_pay62 v506 (ix1 l) = v506 (ix3 (0 : Fin 1) (0 : Fin 1) l) := by
  unfold k0_pay62
  exact cast_16 v506 l

theorem k0_pay63_lane (v511 : Vec F S1x1x16 .f32) (l : Fin 16) :
    k0_pay63 v511 (ix1 l) = v511 (ix3 (0 : Fin 1) (0 : Fin 1) l) := by
  unfold k0_pay63
  exact cast_16 v511 l

theorem k0_pay64_lane (v516 : Vec F S1x1x16 .f32) (l : Fin 16) :
    k0_pay64 v516 (ix1 l) = v516 (ix3 (0 : Fin 1) (0 : Fin 1) l) := by
  unfold k0_pay64
  exact cast_16 v516 l

theorem k0_pay65_lane (v521 : Vec F S1x1x16 .f32) (l : Fin 16) :
    k0_pay65 v521 (ix1 l) = v521 (ix3 (0 : Fin 1) (0 : Fin 1) l) := by
  unfold k0_pay65
  exact cast_16 v521 l

theorem k0_pay66_lane (v526 : Vec F S1x1x16 .f32) (l : Fin 16) :
    k0_pay66 v526 (ix1 l) = v526 (ix3 (0 : Fin 1) (0 : Fin 1) l) := by
  unfold k0_pay66
  exact cast_16 v526 l

theorem k0_pay67_lane (v531 : Vec F S1x1x16 .f32) (l : Fin 16) :
    k0_pay67 v531 (ix1 l) = v531 (ix3 (0 : Fin 1) (0 : Fin 1) l) := by
  unfold k0_pay67
  exact cast_16 v531 l

theorem k0_pay68_lane (v536 : Vec F S1x1x16 .f32) (l : Fin 16) :
    k0_pay68 v536 (ix1 l) = v536 (ix3 (0 : Fin 1) (0 : Fin 1) l) := by
  unfold k0_pay68
  exact cast_16 v536 l

theorem k0_pay69_lane (v541 : Vec F S1x1x16 .f32) (l : Fin 16) :
    k0_pay69 v541 (ix1 l) = v541 (ix3 (0 : Fin 1) (0 : Fin 1) l) := by
  unfold k0_pay69
  exact cast_16 v541 l

theorem k0_pay70_lane (v546 : Vec F S1x1x16 .f32) (l : Fin 16) :
    k0_pay70 v546 (ix1 l) = v546 (ix3 (0 : Fin 1) (0 : Fin 1) l) := by
  unfold k0_pay70
  exact cast_16 v546 l

theorem k0_pay71_lane (v551 : Vec F S1x1x16 .f32) (l : Fin 16) :
    k0_pay71 v551 (ix1 l) = v551 (ix3 (0 : Fin 1) (0 : Fin 1) l) := by
  unfold k0_pay71
  exact cast_16 v551 l

theorem k0_pay72_lane (v556 : Vec F S1x1x16 .f32) (l : Fin 16) :
    k0_pay72 v556 (ix1 l) = v556 (ix3 (0 : Fin 1) (0 : Fin 1) l) := by
  unfold k0_pay72
  exact cast_16 v556 l

theorem k0_pay73_lane (v561 : Vec F S1x1x16 .f32) (l : Fin 16) :
    k0_pay73 v561 (ix1 l) = v561 (ix3 (0 : Fin 1) (0 : Fin 1) l) := by
  unfold k0_pay73
  exact cast_16 v561 l

theorem k0_pay74_lane (v566 : Vec F S1x1x16 .f32) (l : Fin 16) :
    k0_pay74 v566 (ix1 l) = v566 (ix3 (0 : Fin 1) (0 : Fin 1) l) := by
  unfold k0_pay74
  exact cast_16 v566 l

theorem k0_pay75_lane (v571 : Vec F S1x1x16 .f32) (l : Fin 16) :
    k0_pay75 v571 (ix1 l) = v571 (ix3 (0 : Fin 1) (0 : Fin 1) l) := by
  unfold k0_pay75
  exact cast_16 v571 l

theorem k0_pay76_lane (v576 : Vec F S1x1x16 .f32) (l : Fin 16) :
    k0_pay76 v576 (ix1 l) = v576 (ix3 (0 : Fin 1) (0 : Fin 1) l) := by
  unfold k0_pay76
  exact cast_16 v576 l

theorem k0_pay77_lane (v581 : Vec F S1x1x16 .f32) (l : Fin 16) :
    k0_pay77 v581 (ix1 l) = v581 (ix3 (0 : Fin 1) (0 : Fin 1) l) := by
  unfold k0_pay77
  exact cast_16 v581 l

theorem k0_pay78_lane (v586 : Vec F S1x1x16 .f32) (l : Fin 16) :
    k0_pay78 v586 (ix1 l) = v586 (ix3 (0 : Fin 1) (0 : Fin 1) l) := by
  unfold k0_pay78
  exact cast_16 v586 l

theorem k0_pay79_lane (v591 : Vec F S1x1x16 .f32) (l : Fin 16) :
    k0_pay79 v591 (ix1 l) = v591 (ix3 (0 : Fin 1) (0 : Fin 1) l) := by
  unfold k0_pay79
  exact cast_16 v591 l

theorem k0_pay80_lane (v596 : Vec F S1x1x16 .f32) (l : Fin 16) :
    k0_pay80 v596 (ix1 l) = v596 (ix3 (0 : Fin 1) (0 : Fin 1) l) := by
  unfold k0_pay80
  exact cast_16 v596 l

theorem k0_pay81_lane (v601 : Vec F S1x1x16 .f32) (l : Fin 16) :
    k0_pay81 v601 (ix1 l) = v601 (ix3 (0 : Fin 1) (0 : Fin 1) l) := by
  unfold k0_pay81
  exact cast_16 v601 l

theorem k0_pay82_lane (v606 : Vec F S1x1x16 .f32) (l : Fin 16) :
    k0_pay82 v606 (ix1 l) = v606 (ix3 (0 : Fin 1) (0 : Fin 1) l) := by
  unfold k0_pay82
  exact cast_16 v606 l

theorem k0_pay83_lane (v611 : Vec F S1x1x16 .f32) (l : Fin 16) :
    k0_pay83 v611 (ix1 l) = v611 (ix3 (0 : Fin 1) (0 : Fin 1) l) := by
  unfold k0_pay83
  exact cast_16 v611 l

theorem k0_pay84_lane (v616 : Vec F S1x1x16 .f32) (l : Fin 16) :
    k0_pay84 v616 (ix1 l) = v616 (ix3 (0 : Fin 1) (0 : Fin 1) l) := by
  unfold k0_pay84
  exact cast_16 v616 l

theorem k0_pay85_lane (v621 : Vec F S1x1x16 .f32) (l : Fin 16) :
    k0_pay85 v621 (ix1 l) = v621 (ix3 (0 : Fin 1) (0 : Fin 1) l) := by
  unfold k0_pay85
  exact cast_16 v621 l

theorem k0_pay86_lane (v626 : Vec F S1x1x16 .f32) (l : Fin 16) :
    k0_pay86 v626 (ix1 l) = v626 (ix3 (0 : Fin 1) (0 : Fin 1) l) := by
  unfold k0_pay86
  exact cast_16 v626 l

theorem k0_pay87_lane (v631 : Vec F S1x1x16 .f32) (l : Fin 16) :
    k0_pay87 v631 (ix1 l) = v631 (ix3 (0 : Fin 1) (0 : Fin 1) l) := by
  unfold k0_pay87
  exact cast_16 v631 l

theorem k0_pay88_lane (v636 : Vec F S1x1x16 .f32) (l : Fin 16) :
    k0_pay88 v636 (ix1 l) = v636 (ix3 (0 : Fin 1) (0 : Fin 1) l) := by
  unfold k0_pay88
  exact cast_16 v636 l

theorem k0_pay89_lane (v641 : Vec F S1x1x16 .f32) (l : Fin 16) :
    k0_pay89 v641 (ix1 l) = v641 (ix3 (0 : Fin 1) (0 : Fin 1) l) := by
  unfold k0_pay89
  exact cast_16 v641 l

theorem k0_pay90_lane (v646 : Vec F S1x1x16 .f32) (l : Fin 16) :
    k0_pay90 v646 (ix1 l) = v646 (ix3 (0 : Fin 1) (0 : Fin 1) l) := by
  unfold k0_pay90
  exact cast_16 v646 l

theorem k0_pay91_lane (v651 : Vec F S1x1x16 .f32) (l : Fin 16) :
    k0_pay91 v651 (ix1 l) = v651 (ix3 (0 : Fin 1) (0 : Fin 1) l) := by
  unfold k0_pay91
  exact cast_16 v651 l

theorem k0_pay92_lane (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (l : Fin 16) :
    k0_pay92 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = FloatOps.addf (FloatOps.addf (FloatOps.addf (FloatOps.addf (FloatOps.addf (v507 (ix1 l)) (v512 (ix1 l))) (FloatOps.addf (v517 (ix1 l)) (v522 (ix1 l)))) (FloatOps.addf (FloatOps.addf (v527 (ix1 l)) (v532 (ix1 l))) (FloatOps.addf (v537 (ix1 l)) (v542 (ix1 l))))) (FloatOps.addf (FloatOps.addf (FloatOps.addf (v547 (ix1 l)) (v552 (ix1 l))) (FloatOps.addf (v557 (ix1 l)) (v562 (ix1 l)))) (FloatOps.addf (FloatOps.addf (v567 (ix1 l)) (v572 (ix1 l))) (FloatOps.addf (v577 (ix1 l)) (v582 (ix1 l)))))) (FloatOps.addf (FloatOps.addf (FloatOps.addf (FloatOps.addf (v587 (ix1 l)) (v592 (ix1 l))) (FloatOps.addf (v597 (ix1 l)) (v602 (ix1 l)))) (FloatOps.addf (FloatOps.addf (v607 (ix1 l)) (v612 (ix1 l))) (FloatOps.addf (v617 (ix1 l)) (v622 (ix1 l))))) (FloatOps.addf (FloatOps.addf (FloatOps.addf (v627 (ix1 l)) (v632 (ix1 l))) (FloatOps.addf (v637 (ix1 l)) (v642 (ix1 l)))) (FloatOps.addf (FloatOps.addf (v647 (ix1 l)) (v652 (ix1 l))) (FloatOps.addf (v656 (ix3 (0 : Fin 1) (0 : Fin 1) l)) (v661 (ix3 (0 : Fin 1) (0 : Fin 1) l)))))) := by
  unfold k0_pay92
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v656 l) (cast_16 v661 l)))))

theorem k0_pay92_tree (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (w : Fin 32 → F .f32) (l : Fin 16)
    (h_v507 : v507 (ix1 l) = w 0)
    (h_v512 : v512 (ix1 l) = w 1)
    (h_v517 : v517 (ix1 l) = w 2)
    (h_v522 : v522 (ix1 l) = w 3)
    (h_v527 : v527 (ix1 l) = w 4)
    (h_v532 : v532 (ix1 l) = w 5)
    (h_v537 : v537 (ix1 l) = w 6)
    (h_v542 : v542 (ix1 l) = w 7)
    (h_v547 : v547 (ix1 l) = w 8)
    (h_v552 : v552 (ix1 l) = w 9)
    (h_v557 : v557 (ix1 l) = w 10)
    (h_v562 : v562 (ix1 l) = w 11)
    (h_v567 : v567 (ix1 l) = w 12)
    (h_v572 : v572 (ix1 l) = w 13)
    (h_v577 : v577 (ix1 l) = w 14)
    (h_v582 : v582 (ix1 l) = w 15)
    (h_v587 : v587 (ix1 l) = w 16)
    (h_v592 : v592 (ix1 l) = w 17)
    (h_v597 : v597 (ix1 l) = w 18)
    (h_v602 : v602 (ix1 l) = w 19)
    (h_v607 : v607 (ix1 l) = w 20)
    (h_v612 : v612 (ix1 l) = w 21)
    (h_v617 : v617 (ix1 l) = w 22)
    (h_v622 : v622 (ix1 l) = w 23)
    (h_v627 : v627 (ix1 l) = w 24)
    (h_v632 : v632 (ix1 l) = w 25)
    (h_v637 : v637 (ix1 l) = w 26)
    (h_v642 : v642 (ix1 l) = w 27)
    (h_v647 : v647 (ix1 l) = w 28)
    (h_v652 : v652 (ix1 l) = w 29)
    (h_v656 : v656 (ix3 (0 : Fin 1) (0 : Fin 1) l) = w 30)
    (h_v661 : v661 (ix3 (0 : Fin 1) (0 : Fin 1) l) = w 31) :
    k0_pay92 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = tree32 w := by
  unfold k0_pay92
  refine (cast_116 _ l).trans ?_
  exact congrArg₂ FloatOps.addf (congrArg₂ FloatOps.addf (congrArg₂ FloatOps.addf (congrArg₂ FloatOps.addf (congrArg₂ FloatOps.addf (h_v507) (h_v512)) (congrArg₂ FloatOps.addf (h_v517) (h_v522))) (congrArg₂ FloatOps.addf (congrArg₂ FloatOps.addf (h_v527) (h_v532)) (congrArg₂ FloatOps.addf (h_v537) (h_v542)))) (congrArg₂ FloatOps.addf (congrArg₂ FloatOps.addf (congrArg₂ FloatOps.addf (h_v547) (h_v552)) (congrArg₂ FloatOps.addf (h_v557) (h_v562))) (congrArg₂ FloatOps.addf (congrArg₂ FloatOps.addf (h_v567) (h_v572)) (congrArg₂ FloatOps.addf (h_v577) (h_v582))))) (congrArg₂ FloatOps.addf (congrArg₂ FloatOps.addf (congrArg₂ FloatOps.addf (congrArg₂ FloatOps.addf (h_v587) (h_v592)) (congrArg₂ FloatOps.addf (h_v597) (h_v602))) (congrArg₂ FloatOps.addf (congrArg₂ FloatOps.addf (h_v607) (h_v612)) (congrArg₂ FloatOps.addf (h_v617) (h_v622)))) (congrArg₂ FloatOps.addf (congrArg₂ FloatOps.addf (congrArg₂ FloatOps.addf (h_v627) (h_v632)) (congrArg₂ FloatOps.addf (h_v637) (h_v642))) (congrArg₂ FloatOps.addf (congrArg₂ FloatOps.addf (h_v647) (h_v652)) (congrArg₂ FloatOps.addf ((cast_16 v656 l).trans h_v656) ((cast_16 v661 l).trans h_v661)))))

theorem k0_pay93_lane (v702 : Vec F S1x1x16 .f32) (l : Fin 16) :
    k0_pay93 v702 (ix1 l) = v702 (ix3 (0 : Fin 1) (0 : Fin 1) l) := by
  unfold k0_pay93
  exact cast_16 v702 l

theorem k0_pay94_lane (v707 : Vec F S1x1x16 .f32) (l : Fin 16) :
    k0_pay94 v707 (ix1 l) = v707 (ix3 (0 : Fin 1) (0 : Fin 1) l) := by
  unfold k0_pay94
  exact cast_16 v707 l

theorem k0_pay95_lane (v712 : Vec F S1x1x16 .f32) (l : Fin 16) :
    k0_pay95 v712 (ix1 l) = v712 (ix3 (0 : Fin 1) (0 : Fin 1) l) := by
  unfold k0_pay95
  exact cast_16 v712 l

theorem k0_pay96_lane (v717 : Vec F S1x1x16 .f32) (l : Fin 16) :
    k0_pay96 v717 (ix1 l) = v717 (ix3 (0 : Fin 1) (0 : Fin 1) l) := by
  unfold k0_pay96
  exact cast_16 v717 l

theorem k0_pay97_lane (v722 : Vec F S1x1x16 .f32) (l : Fin 16) :
    k0_pay97 v722 (ix1 l) = v722 (ix3 (0 : Fin 1) (0 : Fin 1) l) := by
  unfold k0_pay97
  exact cast_16 v722 l

theorem k0_pay98_lane (v727 : Vec F S1x1x16 .f32) (l : Fin 16) :
    k0_pay98 v727 (ix1 l) = v727 (ix3 (0 : Fin 1) (0 : Fin 1) l) := by
  unfold k0_pay98
  exact cast_16 v727 l

theorem k0_pay99_lane (v732 : Vec F S1x1x16 .f32) (l : Fin 16) :
    k0_pay99 v732 (ix1 l) = v732 (ix3 (0 : Fin 1) (0 : Fin 1) l) := by
  unfold k0_pay99
  exact cast_16 v732 l

theorem k0_pay100_lane (v737 : Vec F S1x1x16 .f32) (l : Fin 16) :
    k0_pay100 v737 (ix1 l) = v737 (ix3 (0 : Fin 1) (0 : Fin 1) l) := by
  unfold k0_pay100
  exact cast_16 v737 l

theorem k0_pay101_lane (v742 : Vec F S1x1x16 .f32) (l : Fin 16) :
    k0_pay101 v742 (ix1 l) = v742 (ix3 (0 : Fin 1) (0 : Fin 1) l) := by
  unfold k0_pay101
  exact cast_16 v742 l

theorem k0_pay102_lane (v747 : Vec F S1x1x16 .f32) (l : Fin 16) :
    k0_pay102 v747 (ix1 l) = v747 (ix3 (0 : Fin 1) (0 : Fin 1) l) := by
  unfold k0_pay102
  exact cast_16 v747 l

theorem k0_pay103_lane (v752 : Vec F S1x1x16 .f32) (l : Fin 16) :
    k0_pay103 v752 (ix1 l) = v752 (ix3 (0 : Fin 1) (0 : Fin 1) l) := by
  unfold k0_pay103
  exact cast_16 v752 l

theorem k0_pay104_lane (v757 : Vec F S1x1x16 .f32) (l : Fin 16) :
    k0_pay104 v757 (ix1 l) = v757 (ix3 (0 : Fin 1) (0 : Fin 1) l) := by
  unfold k0_pay104
  exact cast_16 v757 l

theorem k0_pay105_lane (v762 : Vec F S1x1x16 .f32) (l : Fin 16) :
    k0_pay105 v762 (ix1 l) = v762 (ix3 (0 : Fin 1) (0 : Fin 1) l) := by
  unfold k0_pay105
  exact cast_16 v762 l

theorem k0_pay106_lane (v767 : Vec F S1x1x16 .f32) (l : Fin 16) :
    k0_pay106 v767 (ix1 l) = v767 (ix3 (0 : Fin 1) (0 : Fin 1) l) := by
  unfold k0_pay106
  exact cast_16 v767 l

theorem k0_pay107_lane (v772 : Vec F S1x1x16 .f32) (l : Fin 16) :
    k0_pay107 v772 (ix1 l) = v772 (ix3 (0 : Fin 1) (0 : Fin 1) l) := by
  unfold k0_pay107
  exact cast_16 v772 l

theorem k0_pay108_lane (v777 : Vec F S1x1x16 .f32) (l : Fin 16) :
    k0_pay108 v777 (ix1 l) = v777 (ix3 (0 : Fin 1) (0 : Fin 1) l) := by
  unfold k0_pay108
  exact cast_16 v777 l

theorem k0_pay109_lane (v782 : Vec F S1x1x16 .f32) (l : Fin 16) :
    k0_pay109 v782 (ix1 l) = v782 (ix3 (0 : Fin 1) (0 : Fin 1) l) := by
  unfold k0_pay109
  exact cast_16 v782 l

theorem k0_pay110_lane (v787 : Vec F S1x1x16 .f32) (l : Fin 16) :
    k0_pay110 v787 (ix1 l) = v787 (ix3 (0 : Fin 1) (0 : Fin 1) l) := by
  unfold k0_pay110
  exact cast_16 v787 l

theorem k0_pay111_lane (v792 : Vec F S1x1x16 .f32) (l : Fin 16) :
    k0_pay111 v792 (ix1 l) = v792 (ix3 (0 : Fin 1) (0 : Fin 1) l) := by
  unfold k0_pay111
  exact cast_16 v792 l

theorem k0_pay112_lane (v797 : Vec F S1x1x16 .f32) (l : Fin 16) :
    k0_pay112 v797 (ix1 l) = v797 (ix3 (0 : Fin 1) (0 : Fin 1) l) := by
  unfold k0_pay112
  exact cast_16 v797 l

theorem k0_pay113_lane (v802 : Vec F S1x1x16 .f32) (l : Fin 16) :
    k0_pay113 v802 (ix1 l) = v802 (ix3 (0 : Fin 1) (0 : Fin 1) l) := by
  unfold k0_pay113
  exact cast_16 v802 l

theorem k0_pay114_lane (v807 : Vec F S1x1x16 .f32) (l : Fin 16) :
    k0_pay114 v807 (ix1 l) = v807 (ix3 (0 : Fin 1) (0 : Fin 1) l) := by
  unfold k0_pay114
  exact cast_16 v807 l

theorem k0_pay115_lane (v812 : Vec F S1x1x16 .f32) (l : Fin 16) :
    k0_pay115 v812 (ix1 l) = v812 (ix3 (0 : Fin 1) (0 : Fin 1) l) := by
  unfold k0_pay115
  exact cast_16 v812 l

theorem k0_pay116_lane (v817 : Vec F S1x1x16 .f32) (l : Fin 16) :
    k0_pay116 v817 (ix1 l) = v817 (ix3 (0 : Fin 1) (0 : Fin 1) l) := by
  unfold k0_pay116
  exact cast_16 v817 l

theorem k0_pay117_lane (v822 : Vec F S1x1x16 .f32) (l : Fin 16) :
    k0_pay117 v822 (ix1 l) = v822 (ix3 (0 : Fin 1) (0 : Fin 1) l) := by
  unfold k0_pay117
  exact cast_16 v822 l

theorem k0_pay118_lane (v827 : Vec F S1x1x16 .f32) (l : Fin 16) :
    k0_pay118 v827 (ix1 l) = v827 (ix3 (0 : Fin 1) (0 : Fin 1) l) := by
  unfold k0_pay118
  exact cast_16 v827 l

theorem k0_pay119_lane (v832 : Vec F S1x1x16 .f32) (l : Fin 16) :
    k0_pay119 v832 (ix1 l) = v832 (ix3 (0 : Fin 1) (0 : Fin 1) l) := by
  unfold k0_pay119
  exact cast_16 v832 l

theorem k0_pay120_lane (v837 : Vec F S1x1x16 .f32) (l : Fin 16) :
    k0_pay120 v837 (ix1 l) = v837 (ix3 (0 : Fin 1) (0 : Fin 1) l) := by
  unfold k0_pay120
  exact cast_16 v837 l

theorem k0_pay121_lane (v842 : Vec F S1x1x16 .f32) (l : Fin 16) :
    k0_pay121 v842 (ix1 l) = v842 (ix3 (0 : Fin 1) (0 : Fin 1) l) := by
  unfold k0_pay121
  exact cast_16 v842 l

theorem k0_pay122_lane (v847 : Vec F S1x1x16 .f32) (l : Fin 16) :
    k0_pay122 v847 (ix1 l) = v847 (ix3 (0 : Fin 1) (0 : Fin 1) l) := by
  unfold k0_pay122
  exact cast_16 v847 l

theorem k0_pay123_lane (v852 : Vec F S1x1x16 .f32) (l : Fin 16) :
    k0_pay123 v852 (ix1 l) = v852 (ix3 (0 : Fin 1) (0 : Fin 1) l) := by
  unfold k0_pay123
  exact cast_16 v852 l

theorem k0_pay124_lane (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (l : Fin 16) :
    k0_pay124 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = FloatOps.addf (FloatOps.addf (FloatOps.addf (FloatOps.addf (FloatOps.addf (v703 (ix1 l)) (v708 (ix1 l))) (FloatOps.addf (v713 (ix1 l)) (v718 (ix1 l)))) (FloatOps.addf (FloatOps.addf (v723 (ix1 l)) (v728 (ix1 l))) (FloatOps.addf (v733 (ix1 l)) (v738 (ix1 l))))) (FloatOps.addf (FloatOps.addf (FloatOps.addf (v743 (ix1 l)) (v748 (ix1 l))) (FloatOps.addf (v753 (ix1 l)) (v758 (ix1 l)))) (FloatOps.addf (FloatOps.addf (v763 (ix1 l)) (v768 (ix1 l))) (FloatOps.addf (v773 (ix1 l)) (v778 (ix1 l)))))) (FloatOps.addf (FloatOps.addf (FloatOps.addf (FloatOps.addf (v783 (ix1 l)) (v788 (ix1 l))) (FloatOps.addf (v793 (ix1 l)) (v798 (ix1 l)))) (FloatOps.addf (FloatOps.addf (v803 (ix1 l)) (v808 (ix1 l))) (FloatOps.addf (v813 (ix1 l)) (v818 (ix1 l))))) (FloatOps.addf (FloatOps.addf (FloatOps.addf (v823 (ix1 l)) (v828 (ix1 l))) (FloatOps.addf (v833 (ix1 l)) (v838 (ix1 l)))) (FloatOps.addf (FloatOps.addf (v843 (ix1 l)) (v848 (ix1 l))) (FloatOps.addf (v853 (ix1 l)) (v857 (ix3 (0 : Fin 1) (0 : Fin 1) l)))))) := by
  unfold k0_pay124
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (cast_16 v857 l)))))

theorem k0_pay124_tree (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (w : Fin 32 → F .f32) (l : Fin 16)
    (h_v703 : v703 (ix1 l) = w 0)
    (h_v708 : v708 (ix1 l) = w 1)
    (h_v713 : v713 (ix1 l) = w 2)
    (h_v718 : v718 (ix1 l) = w 3)
    (h_v723 : v723 (ix1 l) = w 4)
    (h_v728 : v728 (ix1 l) = w 5)
    (h_v733 : v733 (ix1 l) = w 6)
    (h_v738 : v738 (ix1 l) = w 7)
    (h_v743 : v743 (ix1 l) = w 8)
    (h_v748 : v748 (ix1 l) = w 9)
    (h_v753 : v753 (ix1 l) = w 10)
    (h_v758 : v758 (ix1 l) = w 11)
    (h_v763 : v763 (ix1 l) = w 12)
    (h_v768 : v768 (ix1 l) = w 13)
    (h_v773 : v773 (ix1 l) = w 14)
    (h_v778 : v778 (ix1 l) = w 15)
    (h_v783 : v783 (ix1 l) = w 16)
    (h_v788 : v788 (ix1 l) = w 17)
    (h_v793 : v793 (ix1 l) = w 18)
    (h_v798 : v798 (ix1 l) = w 19)
    (h_v803 : v803 (ix1 l) = w 20)
    (h_v808 : v808 (ix1 l) = w 21)
    (h_v813 : v813 (ix1 l) = w 22)
    (h_v818 : v818 (ix1 l) = w 23)
    (h_v823 : v823 (ix1 l) = w 24)
    (h_v828 : v828 (ix1 l) = w 25)
    (h_v833 : v833 (ix1 l) = w 26)
    (h_v838 : v838 (ix1 l) = w 27)
    (h_v843 : v843 (ix1 l) = w 28)
    (h_v848 : v848 (ix1 l) = w 29)
    (h_v853 : v853 (ix1 l) = w 30)
    (h_v857 : v857 (ix3 (0 : Fin 1) (0 : Fin 1) l) = w 31) :
    k0_pay124 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = tree32 w := by
  unfold k0_pay124
  refine (cast_116 _ l).trans ?_
  exact congrArg₂ FloatOps.addf (congrArg₂ FloatOps.addf (congrArg₂ FloatOps.addf (congrArg₂ FloatOps.addf (congrArg₂ FloatOps.addf (h_v703) (h_v708)) (congrArg₂ FloatOps.addf (h_v713) (h_v718))) (congrArg₂ FloatOps.addf (congrArg₂ FloatOps.addf (h_v723) (h_v728)) (congrArg₂ FloatOps.addf (h_v733) (h_v738)))) (congrArg₂ FloatOps.addf (congrArg₂ FloatOps.addf (congrArg₂ FloatOps.addf (h_v743) (h_v748)) (congrArg₂ FloatOps.addf (h_v753) (h_v758))) (congrArg₂ FloatOps.addf (congrArg₂ FloatOps.addf (h_v763) (h_v768)) (congrArg₂ FloatOps.addf (h_v773) (h_v778))))) (congrArg₂ FloatOps.addf (congrArg₂ FloatOps.addf (congrArg₂ FloatOps.addf (congrArg₂ FloatOps.addf (h_v783) (h_v788)) (congrArg₂ FloatOps.addf (h_v793) (h_v798))) (congrArg₂ FloatOps.addf (congrArg₂ FloatOps.addf (h_v803) (h_v808)) (congrArg₂ FloatOps.addf (h_v813) (h_v818)))) (congrArg₂ FloatOps.addf (congrArg₂ FloatOps.addf (congrArg₂ FloatOps.addf (h_v823) (h_v828)) (congrArg₂ FloatOps.addf (h_v833) (h_v838))) (congrArg₂ FloatOps.addf (congrArg₂ FloatOps.addf (h_v843) (h_v848)) (congrArg₂ FloatOps.addf (h_v853) ((cast_16 v857 l).trans h_v857)))))

theorem k0_pay125_lane (v898 : Vec F S1x1x16 .f32) (l : Fin 16) :
    k0_pay125 v898 (ix1 l) = v898 (ix3 (0 : Fin 1) (0 : Fin 1) l) := by
  unfold k0_pay125
  exact cast_16 v898 l

theorem k0_pay126_lane (v903 : Vec F S1x1x16 .f32) (l : Fin 16) :
    k0_pay126 v903 (ix1 l) = v903 (ix3 (0 : Fin 1) (0 : Fin 1) l) := by
  unfold k0_pay126
  exact cast_16 v903 l

theorem k0_pay127_lane (v908 : Vec F S1x1x16 .f32) (l : Fin 16) :
    k0_pay127 v908 (ix1 l) = v908 (ix3 (0 : Fin 1) (0 : Fin 1) l) := by
  unfold k0_pay127
  exact cast_16 v908 l

theorem k0_pay128_lane (v913 : Vec F S1x1x16 .f32) (l : Fin 16) :
    k0_pay128 v913 (ix1 l) = v913 (ix3 (0 : Fin 1) (0 : Fin 1) l) := by
  unfold k0_pay128
  exact cast_16 v913 l

theorem k0_pay129_lane (v918 : Vec F S1x1x16 .f32) (l : Fin 16) :
    k0_pay129 v918 (ix1 l) = v918 (ix3 (0 : Fin 1) (0 : Fin 1) l) := by
  unfold k0_pay129
  exact cast_16 v918 l

theorem k0_pay130_lane (v923 : Vec F S1x1x16 .f32) (l : Fin 16) :
    k0_pay130 v923 (ix1 l) = v923 (ix3 (0 : Fin 1) (0 : Fin 1) l) := by
  unfold k0_pay130
  exact cast_16 v923 l

theorem k0_pay131_lane (v928 : Vec F S1x1x16 .f32) (l : Fin 16) :
    k0_pay131 v928 (ix1 l) = v928 (ix3 (0 : Fin 1) (0 : Fin 1) l) := by
  unfold k0_pay131
  exact cast_16 v928 l

theorem k0_pay132_lane (v933 : Vec F S1x1x16 .f32) (l : Fin 16) :
    k0_pay132 v933 (ix1 l) = v933 (ix3 (0 : Fin 1) (0 : Fin 1) l) := by
  unfold k0_pay132
  exact cast_16 v933 l

theorem k0_pay133_lane (v938 : Vec F S1x1x16 .f32) (l : Fin 16) :
    k0_pay133 v938 (ix1 l) = v938 (ix3 (0 : Fin 1) (0 : Fin 1) l) := by
  unfold k0_pay133
  exact cast_16 v938 l

theorem k0_pay134_lane (v943 : Vec F S1x1x16 .f32) (l : Fin 16) :
    k0_pay134 v943 (ix1 l) = v943 (ix3 (0 : Fin 1) (0 : Fin 1) l) := by
  unfold k0_pay134
  exact cast_16 v943 l

theorem k0_pay135_lane (v948 : Vec F S1x1x16 .f32) (l : Fin 16) :
    k0_pay135 v948 (ix1 l) = v948 (ix3 (0 : Fin 1) (0 : Fin 1) l) := by
  unfold k0_pay135
  exact cast_16 v948 l

theorem k0_pay136_lane (v953 : Vec F S1x1x16 .f32) (l : Fin 16) :
    k0_pay136 v953 (ix1 l) = v953 (ix3 (0 : Fin 1) (0 : Fin 1) l) := by
  unfold k0_pay136
  exact cast_16 v953 l

theorem k0_pay137_lane (v958 : Vec F S1x1x16 .f32) (l : Fin 16) :
    k0_pay137 v958 (ix1 l) = v958 (ix3 (0 : Fin 1) (0 : Fin 1) l) := by
  unfold k0_pay137
  exact cast_16 v958 l

theorem k0_pay138_lane (v963 : Vec F S1x1x16 .f32) (l : Fin 16) :
    k0_pay138 v963 (ix1 l) = v963 (ix3 (0 : Fin 1) (0 : Fin 1) l) := by
  unfold k0_pay138
  exact cast_16 v963 l

theorem k0_pay139_lane (v968 : Vec F S1x1x16 .f32) (l : Fin 16) :
    k0_pay139 v968 (ix1 l) = v968 (ix3 (0 : Fin 1) (0 : Fin 1) l) := by
  unfold k0_pay139
  exact cast_16 v968 l

theorem k0_pay140_lane (v973 : Vec F S1x1x16 .f32) (l : Fin 16) :
    k0_pay140 v973 (ix1 l) = v973 (ix3 (0 : Fin 1) (0 : Fin 1) l) := by
  unfold k0_pay140
  exact cast_16 v973 l

theorem k0_pay141_lane (v978 : Vec F S1x1x16 .f32) (l : Fin 16) :
    k0_pay141 v978 (ix1 l) = v978 (ix3 (0 : Fin 1) (0 : Fin 1) l) := by
  unfold k0_pay141
  exact cast_16 v978 l

theorem k0_pay142_lane (v983 : Vec F S1x1x16 .f32) (l : Fin 16) :
    k0_pay142 v983 (ix1 l) = v983 (ix3 (0 : Fin 1) (0 : Fin 1) l) := by
  unfold k0_pay142
  exact cast_16 v983 l

theorem k0_pay143_lane (v988 : Vec F S1x1x16 .f32) (l : Fin 16) :
    k0_pay143 v988 (ix1 l) = v988 (ix3 (0 : Fin 1) (0 : Fin 1) l) := by
  unfold k0_pay143
  exact cast_16 v988 l

theorem k0_pay144_lane (v993 : Vec F S1x1x16 .f32) (l : Fin 16) :
    k0_pay144 v993 (ix1 l) = v993 (ix3 (0 : Fin 1) (0 : Fin 1) l) := by
  unfold k0_pay144
  exact cast_16 v993 l

theorem k0_pay145_lane (v998 : Vec F S1x1x16 .f32) (l : Fin 16) :
    k0_pay145 v998 (ix1 l) = v998 (ix3 (0 : Fin 1) (0 : Fin 1) l) := by
  unfold k0_pay145
  exact cast_16 v998 l

theorem k0_pay146_lane (v1003 : Vec F S1x1x16 .f32) (l : Fin 16) :
    k0_pay146 v1003 (ix1 l) = v1003 (ix3 (0 : Fin 1) (0 : Fin 1) l) := by
  unfold k0_pay146
  exact cast_16 v1003 l

theorem k0_pay147_lane (v1008 : Vec F S1x1x16 .f32) (l : Fin 16) :
    k0_pay147 v1008 (ix1 l) = v1008 (ix3 (0 : Fin 1) (0 : Fin 1) l) := by
  unfold k0_pay147
  exact cast_16 v1008 l

theorem k0_pay148_lane (v1013 : Vec F S1x1x16 .f32) (l : Fin 16) :
    k0_pay148 v1013 (ix1 l) = v1013 (ix3 (0 : Fin 1) (0 : Fin 1) l) := by
  unfold k0_pay148
  exact cast_16 v1013 l

theorem k0_pay149_lane (v1018 : Vec F S1x1x16 .f32) (l : Fin 16) :
    k0_pay149 v1018 (ix1 l) = v1018 (ix3 (0 : Fin 1) (0 : Fin 1) l) := by
  unfold k0_pay149
  exact cast_16 v1018 l

theorem k0_pay150_lane (v1023 : Vec F S1x1x16 .f32) (l : Fin 16) :
    k0_pay150 v1023 (ix1 l) = v1023 (ix3 (0 : Fin 1) (0 : Fin 1) l) := by
  unfold k0_pay150
  exact cast_16 v1023 l

theorem k0_pay151_lane (v1028 : Vec F S1x1x16 .f32) (l : Fin 16) :
    k0_pay151 v1028 (ix1 l) = v1028 (ix3 (0 : Fin 1) (0 : Fin 1) l) := by
  unfold k0_pay151
  exact cast_16 v1028 l

theorem k0_pay152_lane (v1033 : Vec F S1x1x16 .f32) (l : Fin 16) :
    k0_pay152 v1033 (ix1 l) = v1033 (ix3 (0 : Fin 1) (0 : Fin 1) l) := by
  unfold k0_pay152
  exact cast_16 v1033 l

theorem k0_pay153_lane (v1038 : Vec F S1x1x16 .f32) (l : Fin 16) :
    k0_pay153 v1038 (ix1 l) = v1038 (ix3 (0 : Fin 1) (0 : Fin 1) l) := by
  unfold k0_pay153
  exact cast_16 v1038 l

theorem k0_pay154_lane (v1043 : Vec F S1x1x16 .f32) (l : Fin 16) :
    k0_pay154 v1043 (ix1 l) = v1043 (ix3 (0 : Fin 1) (0 : Fin 1) l) := by
  unfold k0_pay154
  exact cast_16 v1043 l

theorem k0_pay155_lane (v1048 : Vec F S1x1x16 .f32) (l : Fin 16) :
    k0_pay155 v1048 (ix1 l) = v1048 (ix3 (0 : Fin 1) (0 : Fin 1) l) := by
  unfold k0_pay155
  exact cast_16 v1048 l

theorem k0_pay156_lane (v1053 : Vec F S1x1x16 .f32) (l : Fin 16) :
    k0_pay156 v1053 (ix1 l) = v1053 (ix3 (0 : Fin 1) (0 : Fin 1) l) := by
  unfold k0_pay156
  exact cast_16 v1053 l

theorem k0_pay157_lane (v899 : FVec F S16 .f32) (v904 : FVec F S16 .f32) (l : Fin 16) :
    k0_pay157 v899 v904 (ix1 l) = FloatOps.addf (v899 (ix1 l)) (v904 (ix1 l)) := by
  unfold k0_pay157
  exact congrArg₂ FloatOps.addf (rfl) (rfl)

theorem k0_pay158_lane (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (l : Fin 16) :
    k0_pay158 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = FloatOps.addf (FloatOps.addf (FloatOps.addf (FloatOps.addf (v1055 (ix1 l)) (FloatOps.addf (v909 (ix1 l)) (v914 (ix1 l)))) (FloatOps.addf (FloatOps.addf (v919 (ix1 l)) (v924 (ix1 l))) (FloatOps.addf (v929 (ix1 l)) (v934 (ix1 l))))) (FloatOps.addf (FloatOps.addf (FloatOps.addf (v939 (ix1 l)) (v944 (ix1 l))) (FloatOps.addf (v949 (ix1 l)) (v954 (ix1 l)))) (FloatOps.addf (FloatOps.addf (v959 (ix1 l)) (v964 (ix1 l))) (FloatOps.addf (v969 (ix1 l)) (v974 (ix1 l)))))) (FloatOps.addf (FloatOps.addf (FloatOps.addf (FloatOps.addf (v979 (ix1 l)) (v984 (ix1 l))) (FloatOps.addf (v989 (ix1 l)) (v994 (ix1 l)))) (FloatOps.addf (FloatOps.addf (v999 (ix1 l)) (v1004 (ix1 l))) (FloatOps.addf (v1009 (ix1 l)) (v1014 (ix1 l))))) (FloatOps.addf (FloatOps.addf (FloatOps.addf (v1019 (ix1 l)) (v1024 (ix1 l))) (FloatOps.addf (v1029 (ix1 l)) (v1034 (ix1 l)))) (FloatOps.addf (FloatOps.addf (v1039 (ix1 l)) (v1044 (ix1 l))) (FloatOps.addf (v1049 (ix1 l)) (v1054 (ix1 l)))))) := by
  unfold k0_pay158
  refine (cast_116 _ l).trans ?_
  exact congrArg₂ FloatOps.addf (congrArg₂ FloatOps.addf (congrArg₂ FloatOps.addf (congrArg₂ FloatOps.addf (rfl) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k0_pay158_tree (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (w : Fin 32 → F .f32) (l : Fin 16)
    (h_v1055 : v1055 (ix1 l) = FloatOps.addf (w 0) (w 1))
    (h_v909 : v909 (ix1 l) = w 2)
    (h_v914 : v914 (ix1 l) = w 3)
    (h_v919 : v919 (ix1 l) = w 4)
    (h_v924 : v924 (ix1 l) = w 5)
    (h_v929 : v929 (ix1 l) = w 6)
    (h_v934 : v934 (ix1 l) = w 7)
    (h_v939 : v939 (ix1 l) = w 8)
    (h_v944 : v944 (ix1 l) = w 9)
    (h_v949 : v949 (ix1 l) = w 10)
    (h_v954 : v954 (ix1 l) = w 11)
    (h_v959 : v959 (ix1 l) = w 12)
    (h_v964 : v964 (ix1 l) = w 13)
    (h_v969 : v969 (ix1 l) = w 14)
    (h_v974 : v974 (ix1 l) = w 15)
    (h_v979 : v979 (ix1 l) = w 16)
    (h_v984 : v984 (ix1 l) = w 17)
    (h_v989 : v989 (ix1 l) = w 18)
    (h_v994 : v994 (ix1 l) = w 19)
    (h_v999 : v999 (ix1 l) = w 20)
    (h_v1004 : v1004 (ix1 l) = w 21)
    (h_v1009 : v1009 (ix1 l) = w 22)
    (h_v1014 : v1014 (ix1 l) = w 23)
    (h_v1019 : v1019 (ix1 l) = w 24)
    (h_v1024 : v1024 (ix1 l) = w 25)
    (h_v1029 : v1029 (ix1 l) = w 26)
    (h_v1034 : v1034 (ix1 l) = w 27)
    (h_v1039 : v1039 (ix1 l) = w 28)
    (h_v1044 : v1044 (ix1 l) = w 29)
    (h_v1049 : v1049 (ix1 l) = w 30)
    (h_v1054 : v1054 (ix1 l) = w 31) :
    k0_pay158 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = tree32 w := by
  unfold k0_pay158
  refine (cast_116 _ l).trans ?_
  exact congrArg₂ FloatOps.addf (congrArg₂ FloatOps.addf (congrArg₂ FloatOps.addf (congrArg₂ FloatOps.addf (h_v1055) (congrArg₂ FloatOps.addf (h_v909) (h_v914))) (congrArg₂ FloatOps.addf (congrArg₂ FloatOps.addf (h_v919) (h_v924)) (congrArg₂ FloatOps.addf (h_v929) (h_v934)))) (congrArg₂ FloatOps.addf (congrArg₂ FloatOps.addf (congrArg₂ FloatOps.addf (h_v939) (h_v944)) (congrArg₂ FloatOps.addf (h_v949) (h_v954))) (congrArg₂ FloatOps.addf (congrArg₂ FloatOps.addf (h_v959) (h_v964)) (congrArg₂ FloatOps.addf (h_v969) (h_v974))))) (congrArg₂ FloatOps.addf (congrArg₂ FloatOps.addf (congrArg₂ FloatOps.addf (congrArg₂ FloatOps.addf (h_v979) (h_v984)) (congrArg₂ FloatOps.addf (h_v989) (h_v994))) (congrArg₂ FloatOps.addf (congrArg₂ FloatOps.addf (h_v999) (h_v1004)) (congrArg₂ FloatOps.addf (h_v1009) (h_v1014)))) (congrArg₂ FloatOps.addf (congrArg₂ FloatOps.addf (congrArg₂ FloatOps.addf (h_v1019) (h_v1024)) (congrArg₂ FloatOps.addf (h_v1029) (h_v1034))) (congrArg₂ FloatOps.addf (congrArg₂ FloatOps.addf (h_v1039) (h_v1044)) (congrArg₂ FloatOps.addf (h_v1049) (h_v1054)))))

theorem k0_pay159_lane (v1094 : Vec F S1x1x16 .f32) (l : Fin 16) :
    k0_pay159 v1094 (ix1 l) = v1094 (ix3 (0 : Fin 1) (0 : Fin 1) l) := by
  unfold k0_pay159
  exact cast_16 v1094 l

theorem k0_pay160_lane (v1099 : Vec F S1x1x16 .f32) (l : Fin 16) :
    k0_pay160 v1099 (ix1 l) = v1099 (ix3 (0 : Fin 1) (0 : Fin 1) l) := by
  unfold k0_pay160
  exact cast_16 v1099 l

theorem k0_pay161_lane (v1104 : Vec F S1x1x16 .f32) (l : Fin 16) :
    k0_pay161 v1104 (ix1 l) = v1104 (ix3 (0 : Fin 1) (0 : Fin 1) l) := by
  unfold k0_pay161
  exact cast_16 v1104 l

theorem k0_pay162_lane (v1109 : Vec F S1x1x16 .f32) (l : Fin 16) :
    k0_pay162 v1109 (ix1 l) = v1109 (ix3 (0 : Fin 1) (0 : Fin 1) l) := by
  unfold k0_pay162
  exact cast_16 v1109 l

theorem k0_pay163_lane (v1114 : Vec F S1x1x16 .f32) (l : Fin 16) :
    k0_pay163 v1114 (ix1 l) = v1114 (ix3 (0 : Fin 1) (0 : Fin 1) l) := by
  unfold k0_pay163
  exact cast_16 v1114 l

theorem k0_pay164_lane (v1119 : Vec F S1x1x16 .f32) (l : Fin 16) :
    k0_pay164 v1119 (ix1 l) = v1119 (ix3 (0 : Fin 1) (0 : Fin 1) l) := by
  unfold k0_pay164
  exact cast_16 v1119 l

theorem k0_pay165_lane (v1124 : Vec F S1x1x16 .f32) (l : Fin 16) :
    k0_pay165 v1124 (ix1 l) = v1124 (ix3 (0 : Fin 1) (0 : Fin 1) l) := by
  unfold k0_pay165
  exact cast_16 v1124 l

theorem k0_pay166_lane (v1129 : Vec F S1x1x16 .f32) (l : Fin 16) :
    k0_pay166 v1129 (ix1 l) = v1129 (ix3 (0 : Fin 1) (0 : Fin 1) l) := by
  unfold k0_pay166
  exact cast_16 v1129 l

theorem k0_pay167_lane (v1134 : Vec F S1x1x16 .f32) (l : Fin 16) :
    k0_pay167 v1134 (ix1 l) = v1134 (ix3 (0 : Fin 1) (0 : Fin 1) l) := by
  unfold k0_pay167
  exact cast_16 v1134 l

theorem k0_pay168_lane (v1139 : Vec F S1x1x16 .f32) (l : Fin 16) :
    k0_pay168 v1139 (ix1 l) = v1139 (ix3 (0 : Fin 1) (0 : Fin 1) l) := by
  unfold k0_pay168
  exact cast_16 v1139 l

theorem k0_pay169_lane (v1144 : Vec F S1x1x16 .f32) (l : Fin 16) :
    k0_pay169 v1144 (ix1 l) = v1144 (ix3 (0 : Fin 1) (0 : Fin 1) l) := by
  unfold k0_pay169
  exact cast_16 v1144 l

theorem k0_pay170_lane (v1149 : Vec F S1x1x16 .f32) (l : Fin 16) :
    k0_pay170 v1149 (ix1 l) = v1149 (ix3 (0 : Fin 1) (0 : Fin 1) l) := by
  unfold k0_pay170
  exact cast_16 v1149 l

theorem k0_pay171_lane (v1154 : Vec F S1x1x16 .f32) (l : Fin 16) :
    k0_pay171 v1154 (ix1 l) = v1154 (ix3 (0 : Fin 1) (0 : Fin 1) l) := by
  unfold k0_pay171
  exact cast_16 v1154 l

theorem k0_pay172_lane (v1159 : Vec F S1x1x16 .f32) (l : Fin 16) :
    k0_pay172 v1159 (ix1 l) = v1159 (ix3 (0 : Fin 1) (0 : Fin 1) l) := by
  unfold k0_pay172
  exact cast_16 v1159 l

theorem k0_pay173_lane (v1164 : Vec F S1x1x16 .f32) (l : Fin 16) :
    k0_pay173 v1164 (ix1 l) = v1164 (ix3 (0 : Fin 1) (0 : Fin 1) l) := by
  unfold k0_pay173
  exact cast_16 v1164 l

theorem k0_pay174_lane (v1169 : Vec F S1x1x16 .f32) (l : Fin 16) :
    k0_pay174 v1169 (ix1 l) = v1169 (ix3 (0 : Fin 1) (0 : Fin 1) l) := by
  unfold k0_pay174
  exact cast_16 v1169 l

theorem k0_pay175_lane (v1174 : Vec F S1x1x16 .f32) (l : Fin 16) :
    k0_pay175 v1174 (ix1 l) = v1174 (ix3 (0 : Fin 1) (0 : Fin 1) l) := by
  unfold k0_pay175
  exact cast_16 v1174 l

theorem k0_pay176_lane (v1179 : Vec F S1x1x16 .f32) (l : Fin 16) :
    k0_pay176 v1179 (ix1 l) = v1179 (ix3 (0 : Fin 1) (0 : Fin 1) l) := by
  unfold k0_pay176
  exact cast_16 v1179 l

theorem k0_pay177_lane (v1184 : Vec F S1x1x16 .f32) (l : Fin 16) :
    k0_pay177 v1184 (ix1 l) = v1184 (ix3 (0 : Fin 1) (0 : Fin 1) l) := by
  unfold k0_pay177
  exact cast_16 v1184 l

theorem k0_pay178_lane (v1189 : Vec F S1x1x16 .f32) (l : Fin 16) :
    k0_pay178 v1189 (ix1 l) = v1189 (ix3 (0 : Fin 1) (0 : Fin 1) l) := by
  unfold k0_pay178
  exact cast_16 v1189 l

theorem k0_pay179_lane (v1194 : Vec F S1x1x16 .f32) (l : Fin 16) :
    k0_pay179 v1194 (ix1 l) = v1194 (ix3 (0 : Fin 1) (0 : Fin 1) l) := by
  unfold k0_pay179
  exact cast_16 v1194 l

theorem k0_pay180_lane (v1199 : Vec F S1x1x16 .f32) (l : Fin 16) :
    k0_pay180 v1199 (ix1 l) = v1199 (ix3 (0 : Fin 1) (0 : Fin 1) l) := by
  unfold k0_pay180
  exact cast_16 v1199 l

theorem k0_pay181_lane (v1204 : Vec F S1x1x16 .f32) (l : Fin 16) :
    k0_pay181 v1204 (ix1 l) = v1204 (ix3 (0 : Fin 1) (0 : Fin 1) l) := by
  unfold k0_pay181
  exact cast_16 v1204 l

theorem k0_pay182_lane (v1209 : Vec F S1x1x16 .f32) (l : Fin 16) :
    k0_pay182 v1209 (ix1 l) = v1209 (ix3 (0 : Fin 1) (0 : Fin 1) l) := by
  unfold k0_pay182
  exact cast_16 v1209 l

theorem k0_pay183_lane (v1214 : Vec F S1x1x16 .f32) (l : Fin 16) :
    k0_pay183 v1214 (ix1 l) = v1214 (ix3 (0 : Fin 1) (0 : Fin 1) l) := by
  unfold k0_pay183
  exact cast_16 v1214 l

theorem k0_pay184_lane (v1219 : Vec F S1x1x16 .f32) (l : Fin 16) :
    k0_pay184 v1219 (ix1 l) = v1219 (ix3 (0 : Fin 1) (0 : Fin 1) l) := by
  unfold k0_pay184
  exact cast_16 v1219 l

theorem k0_pay185_lane (v1224 : Vec F S1x1x16 .f32) (l : Fin 16) :
    k0_pay185 v1224 (ix1 l) = v1224 (ix3 (0 : Fin 1) (0 : Fin 1) l) := by
  unfold k0_pay185
  exact cast_16 v1224 l

theorem k0_pay186_lane (v1229 : Vec F S1x1x16 .f32) (l : Fin 16) :
    k0_pay186 v1229 (ix1 l) = v1229 (ix3 (0 : Fin 1) (0 : Fin 1) l) := by
  unfold k0_pay186
  exact cast_16 v1229 l

theorem k0_pay187_lane (v1234 : Vec F S1x1x16 .f32) (l : Fin 16) :
    k0_pay187 v1234 (ix1 l) = v1234 (ix3 (0 : Fin 1) (0 : Fin 1) l) := by
  unfold k0_pay187
  exact cast_16 v1234 l

theorem k0_pay188_lane (v1239 : Vec F S1x1x16 .f32) (l : Fin 16) :
    k0_pay188 v1239 (ix1 l) = v1239 (ix3 (0 : Fin 1) (0 : Fin 1) l) := by
  unfold k0_pay188
  exact cast_16 v1239 l

theorem k0_pay189_lane (v1244 : Vec F S1x1x16 .f32) (l : Fin 16) :
    k0_pay189 v1244 (ix1 l) = v1244 (ix3 (0 : Fin 1) (0 : Fin 1) l) := by
  unfold k0_pay189
  exact cast_16 v1244 l

theorem k0_pay190_lane (v1249 : Vec F S1x1x16 .f32) (l : Fin 16) :
    k0_pay190 v1249 (ix1 l) = v1249 (ix3 (0 : Fin 1) (0 : Fin 1) l) := by
  unfold k0_pay190
  exact cast_16 v1249 l

theorem k0_pay191_lane (v1095 : FVec F S16 .f32) (v1100 : FVec F S16 .f32) (l : Fin 16) :
    k0_pay191 v1095 v1100 (ix1 l) = FloatOps.addf (v1095 (ix1 l)) (v1100 (ix1 l)) := by
  unfold k0_pay191
  exact congrArg₂ FloatOps.addf (rfl) (rfl)

theorem k0_pay192_lane (v1105 : FVec F S16 .f32) (v1110 : FVec F S16 .f32) (l : Fin 16) :
    k0_pay192 v1105 v1110 (ix1 l) = FloatOps.addf (v1105 (ix1 l)) (v1110 (ix1 l)) := by
  unfold k0_pay192
  exact congrArg₂ FloatOps.addf (rfl) (rfl)

theorem k0_pay193_lane (v1115 : FVec F S16 .f32) (v1120 : FVec F S16 .f32) (l : Fin 16) :
    k0_pay193 v1115 v1120 (ix1 l) = FloatOps.addf (v1115 (ix1 l)) (v1120 (ix1 l)) := by
  unfold k0_pay193
  exact congrArg₂ FloatOps.addf (rfl) (rfl)

theorem k0_pay194_lane (v1125 : FVec F S16 .f32) (v1130 : FVec F S16 .f32) (l : Fin 16) :
    k0_pay194 v1125 v1130 (ix1 l) = FloatOps.addf (v1125 (ix1 l)) (v1130 (ix1 l)) := by
  unfold k0_pay194
  exact congrArg₂ FloatOps.addf (rfl) (rfl)

theorem k0_pay195_lane (v1135 : FVec F S16 .f32) (v1140 : FVec F S16 .f32) (l : Fin 16) :
    k0_pay195 v1135 v1140 (ix1 l) = FloatOps.addf (v1135 (ix1 l)) (v1140 (ix1 l)) := by
  unfold k0_pay195
  exact congrArg₂ FloatOps.addf (rfl) (rfl)

theorem k0_pay196_lane (v1145 : FVec F S16 .f32) (v1150 : FVec F S16 .f32) (l : Fin 16) :
    k0_pay196 v1145 v1150 (ix1 l) = FloatOps.addf (v1145 (ix1 l)) (v1150 (ix1 l)) := by
  unfold k0_pay196
  exact congrArg₂ FloatOps.addf (rfl) (rfl)

theorem k0_pay197_lane (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (l : Fin 16) :
    k0_pay197 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = FloatOps.addf (FloatOps.addf (FloatOps.addf (FloatOps.addf (v1251 (ix1 l)) (v1252 (ix1 l))) (FloatOps.addf (v1253 (ix1 l)) (v1254 (ix1 l)))) (FloatOps.addf (FloatOps.addf (v1255 (ix1 l)) (v1256 (ix1 l))) (FloatOps.addf (FloatOps.addf (v1155 (ix1 l)) (v1160 (ix1 l))) (FloatOps.addf (v1165 (ix1 l)) (v1170 (ix1 l)))))) (FloatOps.addf (FloatOps.addf (FloatOps.addf (FloatOps.addf (v1175 (ix1 l)) (v1180 (ix1 l))) (FloatOps.addf (v1185 (ix1 l)) (v1190 (ix1 l)))) (FloatOps.addf (FloatOps.addf (v1195 (ix1 l)) (v1200 (ix1 l))) (FloatOps.addf (v1205 (ix1 l)) (v1210 (ix1 l))))) (FloatOps.addf (FloatOps.addf (FloatOps.addf (v1215 (ix1 l)) (v1220 (ix1 l))) (FloatOps.addf (v1225 (ix1 l)) (v1230 (ix1 l)))) (FloatOps.addf (FloatOps.addf (v1235 (ix1 l)) (v1240 (ix1 l))) (FloatOps.addf (v1245 (ix1 l)) (v1250 (ix1 l)))))) := by
  unfold k0_pay197
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k0_pay197_tree (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (w : Fin 32 → F .f32) (l : Fin 16)
    (h_v1251 : v1251 (ix1 l) = FloatOps.addf (w 0) (w 1))
    (h_v1252 : v1252 (ix1 l) = FloatOps.addf (w 2) (w 3))
    (h_v1253 : v1253 (ix1 l) = FloatOps.addf (w 4) (w 5))
    (h_v1254 : v1254 (ix1 l) = FloatOps.addf (w 6) (w 7))
    (h_v1255 : v1255 (ix1 l) = FloatOps.addf (w 8) (w 9))
    (h_v1256 : v1256 (ix1 l) = FloatOps.addf (w 10) (w 11))
    (h_v1155 : v1155 (ix1 l) = w 12)
    (h_v1160 : v1160 (ix1 l) = w 13)
    (h_v1165 : v1165 (ix1 l) = w 14)
    (h_v1170 : v1170 (ix1 l) = w 15)
    (h_v1175 : v1175 (ix1 l) = w 16)
    (h_v1180 : v1180 (ix1 l) = w 17)
    (h_v1185 : v1185 (ix1 l) = w 18)
    (h_v1190 : v1190 (ix1 l) = w 19)
    (h_v1195 : v1195 (ix1 l) = w 20)
    (h_v1200 : v1200 (ix1 l) = w 21)
    (h_v1205 : v1205 (ix1 l) = w 22)
    (h_v1210 : v1210 (ix1 l) = w 23)
    (h_v1215 : v1215 (ix1 l) = w 24)
    (h_v1220 : v1220 (ix1 l) = w 25)
    (h_v1225 : v1225 (ix1 l) = w 26)
    (h_v1230 : v1230 (ix1 l) = w 27)
    (h_v1235 : v1235 (ix1 l) = w 28)
    (h_v1240 : v1240 (ix1 l) = w 29)
    (h_v1245 : v1245 (ix1 l) = w 30)
    (h_v1250 : v1250 (ix1 l) = w 31) :
    k0_pay197 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = tree32 w := by
  unfold k0_pay197
  refine (cast_116 _ l).trans ?_
  exact congrArg₂ FloatOps.addf (congrArg₂ FloatOps.addf (congrArg₂ FloatOps.addf (congrArg₂ FloatOps.addf (h_v1251) (h_v1252)) (congrArg₂ FloatOps.addf (h_v1253) (h_v1254))) (congrArg₂ FloatOps.addf (congrArg₂ FloatOps.addf (h_v1255) (h_v1256)) (congrArg₂ FloatOps.addf (congrArg₂ FloatOps.addf (h_v1155) (h_v1160)) (congrArg₂ FloatOps.addf (h_v1165) (h_v1170))))) (congrArg₂ FloatOps.addf (congrArg₂ FloatOps.addf (congrArg₂ FloatOps.addf (congrArg₂ FloatOps.addf (h_v1175) (h_v1180)) (congrArg₂ FloatOps.addf (h_v1185) (h_v1190))) (congrArg₂ FloatOps.addf (congrArg₂ FloatOps.addf (h_v1195) (h_v1200)) (congrArg₂ FloatOps.addf (h_v1205) (h_v1210)))) (congrArg₂ FloatOps.addf (congrArg₂ FloatOps.addf (congrArg₂ FloatOps.addf (h_v1215) (h_v1220)) (congrArg₂ FloatOps.addf (h_v1225) (h_v1230))) (congrArg₂ FloatOps.addf (congrArg₂ FloatOps.addf (h_v1235) (h_v1240)) (congrArg₂ FloatOps.addf (h_v1245) (h_v1250)))))

theorem k0_pay198_lane (v1290 : Vec F S1x1x16 .f32) (l : Fin 16) :
    k0_pay198 v1290 (ix1 l) = v1290 (ix3 (0 : Fin 1) (0 : Fin 1) l) := by
  unfold k0_pay198
  exact cast_16 v1290 l

theorem k0_pay199_lane (v1295 : Vec F S1x1x16 .f32) (l : Fin 16) :
    k0_pay199 v1295 (ix1 l) = v1295 (ix3 (0 : Fin 1) (0 : Fin 1) l) := by
  unfold k0_pay199
  exact cast_16 v1295 l

theorem k0_pay200_lane (v1300 : Vec F S1x1x16 .f32) (l : Fin 16) :
    k0_pay200 v1300 (ix1 l) = v1300 (ix3 (0 : Fin 1) (0 : Fin 1) l) := by
  unfold k0_pay200
  exact cast_16 v1300 l

theorem k0_pay201_lane (v1305 : Vec F S1x1x16 .f32) (l : Fin 16) :
    k0_pay201 v1305 (ix1 l) = v1305 (ix3 (0 : Fin 1) (0 : Fin 1) l) := by
  unfold k0_pay201
  exact cast_16 v1305 l

theorem k0_pay202_lane (v1310 : Vec F S1x1x16 .f32) (l : Fin 16) :
    k0_pay202 v1310 (ix1 l) = v1310 (ix3 (0 : Fin 1) (0 : Fin 1) l) := by
  unfold k0_pay202
  exact cast_16 v1310 l

theorem k0_pay203_lane (v1315 : Vec F S1x1x16 .f32) (l : Fin 16) :
    k0_pay203 v1315 (ix1 l) = v1315 (ix3 (0 : Fin 1) (0 : Fin 1) l) := by
  unfold k0_pay203
  exact cast_16 v1315 l

theorem k0_pay204_lane (v1320 : Vec F S1x1x16 .f32) (l : Fin 16) :
    k0_pay204 v1320 (ix1 l) = v1320 (ix3 (0 : Fin 1) (0 : Fin 1) l) := by
  unfold k0_pay204
  exact cast_16 v1320 l

theorem k0_pay205_lane (v1325 : Vec F S1x1x16 .f32) (l : Fin 16) :
    k0_pay205 v1325 (ix1 l) = v1325 (ix3 (0 : Fin 1) (0 : Fin 1) l) := by
  unfold k0_pay205
  exact cast_16 v1325 l

theorem k0_pay206_lane (v1330 : Vec F S1x1x16 .f32) (l : Fin 16) :
    k0_pay206 v1330 (ix1 l) = v1330 (ix3 (0 : Fin 1) (0 : Fin 1) l) := by
  unfold k0_pay206
  exact cast_16 v1330 l

theorem k0_pay207_lane (v1335 : Vec F S1x1x16 .f32) (l : Fin 16) :
    k0_pay207 v1335 (ix1 l) = v1335 (ix3 (0 : Fin 1) (0 : Fin 1) l) := by
  unfold k0_pay207
  exact cast_16 v1335 l

theorem k0_pay208_lane (v1340 : Vec F S1x1x16 .f32) (l : Fin 16) :
    k0_pay208 v1340 (ix1 l) = v1340 (ix3 (0 : Fin 1) (0 : Fin 1) l) := by
  unfold k0_pay208
  exact cast_16 v1340 l

theorem k0_pay209_lane (v1345 : Vec F S1x1x16 .f32) (l : Fin 16) :
    k0_pay209 v1345 (ix1 l) = v1345 (ix3 (0 : Fin 1) (0 : Fin 1) l) := by
  unfold k0_pay209
  exact cast_16 v1345 l

theorem k0_pay210_lane (v1350 : Vec F S1x1x16 .f32) (l : Fin 16) :
    k0_pay210 v1350 (ix1 l) = v1350 (ix3 (0 : Fin 1) (0 : Fin 1) l) := by
  unfold k0_pay210
  exact cast_16 v1350 l

theorem k0_pay211_lane (v1355 : Vec F S1x1x16 .f32) (l : Fin 16) :
    k0_pay211 v1355 (ix1 l) = v1355 (ix3 (0 : Fin 1) (0 : Fin 1) l) := by
  unfold k0_pay211
  exact cast_16 v1355 l

theorem k0_pay212_lane (v1360 : Vec F S1x1x16 .f32) (l : Fin 16) :
    k0_pay212 v1360 (ix1 l) = v1360 (ix3 (0 : Fin 1) (0 : Fin 1) l) := by
  unfold k0_pay212
  exact cast_16 v1360 l

theorem k0_pay213_lane (v1365 : Vec F S1x1x16 .f32) (l : Fin 16) :
    k0_pay213 v1365 (ix1 l) = v1365 (ix3 (0 : Fin 1) (0 : Fin 1) l) := by
  unfold k0_pay213
  exact cast_16 v1365 l

theorem k0_pay214_lane (v1370 : Vec F S1x1x16 .f32) (l : Fin 16) :
    k0_pay214 v1370 (ix1 l) = v1370 (ix3 (0 : Fin 1) (0 : Fin 1) l) := by
  unfold k0_pay214
  exact cast_16 v1370 l

theorem k0_pay215_lane (v1375 : Vec F S1x1x16 .f32) (l : Fin 16) :
    k0_pay215 v1375 (ix1 l) = v1375 (ix3 (0 : Fin 1) (0 : Fin 1) l) := by
  unfold k0_pay215
  exact cast_16 v1375 l

theorem k0_pay216_lane (v1380 : Vec F S1x1x16 .f32) (l : Fin 16) :
    k0_pay216 v1380 (ix1 l) = v1380 (ix3 (0 : Fin 1) (0 : Fin 1) l) := by
  unfold k0_pay216
  exact cast_16 v1380 l

theorem k0_pay217_lane (v1385 : Vec F S1x1x16 .f32) (l : Fin 16) :
    k0_pay217 v1385 (ix1 l) = v1385 (ix3 (0 : Fin 1) (0 : Fin 1) l) := by
  unfold k0_pay217
  exact cast_16 v1385 l

theorem k0_pay218_lane (v1390 : Vec F S1x1x16 .f32) (l : Fin 16) :
    k0_pay218 v1390 (ix1 l) = v1390 (ix3 (0 : Fin 1) (0 : Fin 1) l) := by
  unfold k0_pay218
  exact cast_16 v1390 l

theorem k0_pay219_lane (v1395 : Vec F S1x1x16 .f32) (l : Fin 16) :
    k0_pay219 v1395 (ix1 l) = v1395 (ix3 (0 : Fin 1) (0 : Fin 1) l) := by
  unfold k0_pay219
  exact cast_16 v1395 l

theorem k0_pay220_lane (v1400 : Vec F S1x1x16 .f32) (l : Fin 16) :
    k0_pay220 v1400 (ix1 l) = v1400 (ix3 (0 : Fin 1) (0 : Fin 1) l) := by
  unfold k0_pay220
  exact cast_16 v1400 l

theorem k0_pay221_lane (v1405 : Vec F S1x1x16 .f32) (l : Fin 16) :
    k0_pay221 v1405 (ix1 l) = v1405 (ix3 (0 : Fin 1) (0 : Fin 1) l) := by
  unfold k0_pay221
  exact cast_16 v1405 l

theorem k0_pay222_lane (v1410 : Vec F S1x1x16 .f32) (l : Fin 16) :
    k0_pay222 v1410 (ix1 l) = v1410 (ix3 (0 : Fin 1) (0 : Fin 1) l) := by
  unfold k0_pay222
  exact cast_16 v1410 l

theorem k0_pay223_lane (v1415 : Vec F S1x1x16 .f32) (l : Fin 16) :
    k0_pay223 v1415 (ix1 l) = v1415 (ix3 (0 : Fin 1) (0 : Fin 1) l) := by
  unfold k0_pay223
  exact cast_16 v1415 l

theorem k0_pay224_lane (v1420 : Vec F S1x1x16 .f32) (l : Fin 16) :
    k0_pay224 v1420 (ix1 l) = v1420 (ix3 (0 : Fin 1) (0 : Fin 1) l) := by
  unfold k0_pay224
  exact cast_16 v1420 l

theorem k0_pay225_lane (v1425 : Vec F S1x1x16 .f32) (l : Fin 16) :
    k0_pay225 v1425 (ix1 l) = v1425 (ix3 (0 : Fin 1) (0 : Fin 1) l) := by
  unfold k0_pay225
  exact cast_16 v1425 l

theorem k0_pay226_lane (v1430 : Vec F S1x1x16 .f32) (l : Fin 16) :
    k0_pay226 v1430 (ix1 l) = v1430 (ix3 (0 : Fin 1) (0 : Fin 1) l) := by
  unfold k0_pay226
  exact cast_16 v1430 l

theorem k0_pay227_lane (v1435 : Vec F S1x1x16 .f32) (l : Fin 16) :
    k0_pay227 v1435 (ix1 l) = v1435 (ix3 (0 : Fin 1) (0 : Fin 1) l) := by
  unfold k0_pay227
  exact cast_16 v1435 l

theorem k0_pay228_lane (v1440 : Vec F S1x1x16 .f32) (l : Fin 16) :
    k0_pay228 v1440 (ix1 l) = v1440 (ix3 (0 : Fin 1) (0 : Fin 1) l) := by
  unfold k0_pay228
  exact cast_16 v1440 l

theorem k0_pay229_lane (v1445 : Vec F S1x1x16 .f32) (l : Fin 16) :
    k0_pay229 v1445 (ix1 l) = v1445 (ix3 (0 : Fin 1) (0 : Fin 1) l) := by
  unfold k0_pay229
  exact cast_16 v1445 l

theorem k0_pay230_lane (v1291 : FVec F S16 .f32) (v1296 : FVec F S16 .f32) (l : Fin 16) :
    k0_pay230 v1291 v1296 (ix1 l) = FloatOps.addf (v1291 (ix1 l)) (v1296 (ix1 l)) := by
  unfold k0_pay230
  exact congrArg₂ FloatOps.addf (rfl) (rfl)

theorem k0_pay231_lane (v1301 : FVec F S16 .f32) (v1306 : FVec F S16 .f32) (l : Fin 16) :
    k0_pay231 v1301 v1306 (ix1 l) = FloatOps.addf (v1301 (ix1 l)) (v1306 (ix1 l)) := by
  unfold k0_pay231
  exact congrArg₂ FloatOps.addf (rfl) (rfl)

theorem k0_pay232_lane (v1311 : FVec F S16 .f32) (v1316 : FVec F S16 .f32) (l : Fin 16) :
    k0_pay232 v1311 v1316 (ix1 l) = FloatOps.addf (v1311 (ix1 l)) (v1316 (ix1 l)) := by
  unfold k0_pay232
  exact congrArg₂ FloatOps.addf (rfl) (rfl)

theorem k0_pay233_lane (v1321 : FVec F S16 .f32) (v1326 : FVec F S16 .f32) (l : Fin 16) :
    k0_pay233 v1321 v1326 (ix1 l) = FloatOps.addf (v1321 (ix1 l)) (v1326 (ix1 l)) := by
  unfold k0_pay233
  exact congrArg₂ FloatOps.addf (rfl) (rfl)

theorem k0_pay234_lane (v1331 : FVec F S16 .f32) (v1336 : FVec F S16 .f32) (l : Fin 16) :
    k0_pay234 v1331 v1336 (ix1 l) = FloatOps.addf (v1331 (ix1 l)) (v1336 (ix1 l)) := by
  unfold k0_pay234
  exact congrArg₂ FloatOps.addf (rfl) (rfl)

theorem k0_pay235_lane (v1341 : FVec F S16 .f32) (v1346 : FVec F S16 .f32) (l : Fin 16) :
    k0_pay235 v1341 v1346 (ix1 l) = FloatOps.addf (v1341 (ix1 l)) (v1346 (ix1 l)) := by
  unfold k0_pay235
  exact congrArg₂ FloatOps.addf (rfl) (rfl)

theorem k0_pay236_lane (v1351 : FVec F S16 .f32) (v1356 : FVec F S16 .f32) (l : Fin 16) :
    k0_pay236 v1351 v1356 (ix1 l) = FloatOps.addf (v1351 (ix1 l)) (v1356 (ix1 l)) := by
  unfold k0_pay236
  exact congrArg₂ FloatOps.addf (rfl) (rfl)

theorem k0_pay237_lane (v1361 : FVec F S16 .f32) (v1366 : FVec F S16 .f32) (l : Fin 16) :
    k0_pay237 v1361 v1366 (ix1 l) = FloatOps.addf (v1361 (ix1 l)) (v1366 (ix1 l)) := by
  unfold k0_pay237
  exact congrArg₂ FloatOps.addf (rfl) (rfl)

theorem k0_pay238_lane (v1371 : FVec F S16 .f32) (v1376 : FVec F S16 .f32) (l : Fin 16) :
    k0_pay238 v1371 v1376 (ix1 l) = FloatOps.addf (v1371 (ix1 l)) (v1376 (ix1 l)) := by
  unfold k0_pay238
  exact congrArg₂ FloatOps.addf (rfl) (rfl)

theorem k0_pay239_lane (v1381 : FVec F S16 .f32) (v1386 : FVec F S16 .f32) (l : Fin 16) :
    k0_pay239 v1381 v1386 (ix1 l) = FloatOps.addf (v1381 (ix1 l)) (v1386 (ix1 l)) := by
  unfold k0_pay239
  exact congrArg₂ FloatOps.addf (rfl) (rfl)

theorem k0_pay240_lane (v1391 : FVec F S16 .f32) (v1396 : FVec F S16 .f32) (l : Fin 16) :
    k0_pay240 v1391 v1396 (ix1 l) = FloatOps.addf (v1391 (ix1 l)) (v1396 (ix1 l)) := by
  unfold k0_pay240
  exact congrArg₂ FloatOps.addf (rfl) (rfl)

theorem k0_pay241_lane (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (l : Fin 16) :
    k0_pay241 v1401 v1406 v1411 v1416 v1421 v1426 v1431 v1436 v1441 v1446 v1447 v1448 v1449 v1450 v1451 v1452 v1453 v1454 v1455 v1456 v1457 (ix3 (0 : Fin 1) (0 : Fin 1) l) = FloatOps.addf (FloatOps.addf (FloatOps.addf (FloatOps.addf (v1447 (ix1 l)) (v1448 (ix1 l))) (FloatOps.addf (v1449 (ix1 l)) (v1450 (ix1 l)))) (FloatOps.addf (FloatOps.addf (v1451 (ix1 l)) (v1452 (ix1 l))) (FloatOps.addf (v1453 (ix1 l)) (v1454 (ix1 l))))) (FloatOps.addf (FloatOps.addf (FloatOps.addf (v1455 (ix1 l)) (v1456 (ix1 l))) (FloatOps.addf (v1457 (ix1 l)) (FloatOps.addf (v1401 (ix1 l)) (v1406 (ix1 l))))) (FloatOps.addf (FloatOps.addf (FloatOps.addf (v1411 (ix1 l)) (v1416 (ix1 l))) (FloatOps.addf (v1421 (ix1 l)) (v1426 (ix1 l)))) (FloatOps.addf (FloatOps.addf (v1431 (ix1 l)) (v1436 (ix1 l))) (FloatOps.addf (v1441 (ix1 l)) (v1446 (ix1 l)))))) := by
  unfold k0_pay241
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k0_pay241_tree (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (w : Fin 32 → F .f32) (l : Fin 16)
    (h_v1447 : v1447 (ix1 l) = FloatOps.addf (w 0) (w 1))
    (h_v1448 : v1448 (ix1 l) = FloatOps.addf (w 2) (w 3))
    (h_v1449 : v1449 (ix1 l) = FloatOps.addf (w 4) (w 5))
    (h_v1450 : v1450 (ix1 l) = FloatOps.addf (w 6) (w 7))
    (h_v1451 : v1451 (ix1 l) = FloatOps.addf (w 8) (w 9))
    (h_v1452 : v1452 (ix1 l) = FloatOps.addf (w 10) (w 11))
    (h_v1453 : v1453 (ix1 l) = FloatOps.addf (w 12) (w 13))
    (h_v1454 : v1454 (ix1 l) = FloatOps.addf (w 14) (w 15))
    (h_v1455 : v1455 (ix1 l) = FloatOps.addf (w 16) (w 17))
    (h_v1456 : v1456 (ix1 l) = FloatOps.addf (w 18) (w 19))
    (h_v1457 : v1457 (ix1 l) = FloatOps.addf (w 20) (w 21))
    (h_v1401 : v1401 (ix1 l) = w 22)
    (h_v1406 : v1406 (ix1 l) = w 23)
    (h_v1411 : v1411 (ix1 l) = w 24)
    (h_v1416 : v1416 (ix1 l) = w 25)
    (h_v1421 : v1421 (ix1 l) = w 26)
    (h_v1426 : v1426 (ix1 l) = w 27)
    (h_v1431 : v1431 (ix1 l) = w 28)
    (h_v1436 : v1436 (ix1 l) = w 29)
    (h_v1441 : v1441 (ix1 l) = w 30)
    (h_v1446 : v1446 (ix1 l) = w 31) :
    k0_pay241 v1401 v1406 v1411 v1416 v1421 v1426 v1431 v1436 v1441 v1446 v1447 v1448 v1449 v1450 v1451 v1452 v1453 v1454 v1455 v1456 v1457 (ix3 (0 : Fin 1) (0 : Fin 1) l) = tree32 w := by
  unfold k0_pay241
  refine (cast_116 _ l).trans ?_
  exact congrArg₂ FloatOps.addf (congrArg₂ FloatOps.addf (congrArg₂ FloatOps.addf (congrArg₂ FloatOps.addf (h_v1447) (h_v1448)) (congrArg₂ FloatOps.addf (h_v1449) (h_v1450))) (congrArg₂ FloatOps.addf (congrArg₂ FloatOps.addf (h_v1451) (h_v1452)) (congrArg₂ FloatOps.addf (h_v1453) (h_v1454)))) (congrArg₂ FloatOps.addf (congrArg₂ FloatOps.addf (congrArg₂ FloatOps.addf (h_v1455) (h_v1456)) (congrArg₂ FloatOps.addf (h_v1457) (congrArg₂ FloatOps.addf (h_v1401) (h_v1406)))) (congrArg₂ FloatOps.addf (congrArg₂ FloatOps.addf (congrArg₂ FloatOps.addf (h_v1411) (h_v1416)) (congrArg₂ FloatOps.addf (h_v1421) (h_v1426))) (congrArg₂ FloatOps.addf (congrArg₂ FloatOps.addf (h_v1431) (h_v1436)) (congrArg₂ FloatOps.addf (h_v1441) (h_v1446)))))

theorem k0_pay242_lane (v1486 : Vec F S1x1x16 .f32) (l : Fin 16) :
    k0_pay242 v1486 (ix1 l) = v1486 (ix3 (0 : Fin 1) (0 : Fin 1) l) := by
  unfold k0_pay242
  exact cast_16 v1486 l

theorem k0_pay243_lane (v1491 : Vec F S1x1x16 .f32) (l : Fin 16) :
    k0_pay243 v1491 (ix1 l) = v1491 (ix3 (0 : Fin 1) (0 : Fin 1) l) := by
  unfold k0_pay243
  exact cast_16 v1491 l

theorem k0_pay244_lane (v1496 : Vec F S1x1x16 .f32) (l : Fin 16) :
    k0_pay244 v1496 (ix1 l) = v1496 (ix3 (0 : Fin 1) (0 : Fin 1) l) := by
  unfold k0_pay244
  exact cast_16 v1496 l

theorem k0_pay245_lane (v1501 : Vec F S1x1x16 .f32) (l : Fin 16) :
    k0_pay245 v1501 (ix1 l) = v1501 (ix3 (0 : Fin 1) (0 : Fin 1) l) := by
  unfold k0_pay245
  exact cast_16 v1501 l

theorem k0_pay246_lane (v1506 : Vec F S1x1x16 .f32) (l : Fin 16) :
    k0_pay246 v1506 (ix1 l) = v1506 (ix3 (0 : Fin 1) (0 : Fin 1) l) := by
  unfold k0_pay246
  exact cast_16 v1506 l

theorem k0_pay247_lane (v1511 : Vec F S1x1x16 .f32) (l : Fin 16) :
    k0_pay247 v1511 (ix1 l) = v1511 (ix3 (0 : Fin 1) (0 : Fin 1) l) := by
  unfold k0_pay247
  exact cast_16 v1511 l

theorem k0_pay248_lane (v1516 : Vec F S1x1x16 .f32) (l : Fin 16) :
    k0_pay248 v1516 (ix1 l) = v1516 (ix3 (0 : Fin 1) (0 : Fin 1) l) := by
  unfold k0_pay248
  exact cast_16 v1516 l

theorem k0_pay249_lane (v1521 : Vec F S1x1x16 .f32) (l : Fin 16) :
    k0_pay249 v1521 (ix1 l) = v1521 (ix3 (0 : Fin 1) (0 : Fin 1) l) := by
  unfold k0_pay249
  exact cast_16 v1521 l

theorem k0_pay250_lane (v1526 : Vec F S1x1x16 .f32) (l : Fin 16) :
    k0_pay250 v1526 (ix1 l) = v1526 (ix3 (0 : Fin 1) (0 : Fin 1) l) := by
  unfold k0_pay250
  exact cast_16 v1526 l

theorem k0_pay251_lane (v1531 : Vec F S1x1x16 .f32) (l : Fin 16) :
    k0_pay251 v1531 (ix1 l) = v1531 (ix3 (0 : Fin 1) (0 : Fin 1) l) := by
  unfold k0_pay251
  exact cast_16 v1531 l

theorem k0_pay252_lane (v1536 : Vec F S1x1x16 .f32) (l : Fin 16) :
    k0_pay252 v1536 (ix1 l) = v1536 (ix3 (0 : Fin 1) (0 : Fin 1) l) := by
  unfold k0_pay252
  exact cast_16 v1536 l

theorem k0_pay253_lane (v1541 : Vec F S1x1x16 .f32) (l : Fin 16) :
    k0_pay253 v1541 (ix1 l) = v1541 (ix3 (0 : Fin 1) (0 : Fin 1) l) := by
  unfold k0_pay253
  exact cast_16 v1541 l

theorem k0_pay254_lane (v1546 : Vec F S1x1x16 .f32) (l : Fin 16) :
    k0_pay254 v1546 (ix1 l) = v1546 (ix3 (0 : Fin 1) (0 : Fin 1) l) := by
  unfold k0_pay254
  exact cast_16 v1546 l

theorem k0_pay255_lane (v1551 : Vec F S1x1x16 .f32) (l : Fin 16) :
    k0_pay255 v1551 (ix1 l) = v1551 (ix3 (0 : Fin 1) (0 : Fin 1) l) := by
  unfold k0_pay255
  exact cast_16 v1551 l

theorem k0_pay256_lane (v1556 : Vec F S1x1x16 .f32) (l : Fin 16) :
    k0_pay256 v1556 (ix1 l) = v1556 (ix3 (0 : Fin 1) (0 : Fin 1) l) := by
  unfold k0_pay256
  exact cast_16 v1556 l

theorem k0_pay257_lane (v1561 : Vec F S1x1x16 .f32) (l : Fin 16) :
    k0_pay257 v1561 (ix1 l) = v1561 (ix3 (0 : Fin 1) (0 : Fin 1) l) := by
  unfold k0_pay257
  exact cast_16 v1561 l

theorem k0_pay258_lane (v1566 : Vec F S1x1x16 .f32) (l : Fin 16) :
    k0_pay258 v1566 (ix1 l) = v1566 (ix3 (0 : Fin 1) (0 : Fin 1) l) := by
  unfold k0_pay258
  exact cast_16 v1566 l

theorem k0_pay259_lane (v1571 : Vec F S1x1x16 .f32) (l : Fin 16) :
    k0_pay259 v1571 (ix1 l) = v1571 (ix3 (0 : Fin 1) (0 : Fin 1) l) := by
  unfold k0_pay259
  exact cast_16 v1571 l

theorem k0_pay260_lane (v1576 : Vec F S1x1x16 .f32) (l : Fin 16) :
    k0_pay260 v1576 (ix1 l) = v1576 (ix3 (0 : Fin 1) (0 : Fin 1) l) := by
  unfold k0_pay260
  exact cast_16 v1576 l

theorem k0_pay261_lane (v1581 : Vec F S1x1x16 .f32) (l : Fin 16) :
    k0_pay261 v1581 (ix1 l) = v1581 (ix3 (0 : Fin 1) (0 : Fin 1) l) := by
  unfold k0_pay261
  exact cast_16 v1581 l

theorem k0_pay262_lane (v1586 : Vec F S1x1x16 .f32) (l : Fin 16) :
    k0_pay262 v1586 (ix1 l) = v1586 (ix3 (0 : Fin 1) (0 : Fin 1) l) := by
  unfold k0_pay262
  exact cast_16 v1586 l

theorem k0_pay263_lane (v1591 : Vec F S1x1x16 .f32) (l : Fin 16) :
    k0_pay263 v1591 (ix1 l) = v1591 (ix3 (0 : Fin 1) (0 : Fin 1) l) := by
  unfold k0_pay263
  exact cast_16 v1591 l

theorem k0_pay264_lane (v1596 : Vec F S1x1x16 .f32) (l : Fin 16) :
    k0_pay264 v1596 (ix1 l) = v1596 (ix3 (0 : Fin 1) (0 : Fin 1) l) := by
  unfold k0_pay264
  exact cast_16 v1596 l

theorem k0_pay265_lane (v1601 : Vec F S1x1x16 .f32) (l : Fin 16) :
    k0_pay265 v1601 (ix1 l) = v1601 (ix3 (0 : Fin 1) (0 : Fin 1) l) := by
  unfold k0_pay265
  exact cast_16 v1601 l

theorem k0_pay266_lane (v1606 : Vec F S1x1x16 .f32) (l : Fin 16) :
    k0_pay266 v1606 (ix1 l) = v1606 (ix3 (0 : Fin 1) (0 : Fin 1) l) := by
  unfold k0_pay266
  exact cast_16 v1606 l

theorem k0_pay267_lane (v1611 : Vec F S1x1x16 .f32) (l : Fin 16) :
    k0_pay267 v1611 (ix1 l) = v1611 (ix3 (0 : Fin 1) (0 : Fin 1) l) := by
  unfold k0_pay267
  exact cast_16 v1611 l

theorem k0_pay268_lane (v1487 : FVec F S16 .f32) (v1492 : FVec F S16 .f32) (l : Fin 16) :
    k0_pay268 v1487 v1492 (ix1 l) = FloatOps.addf (v1487 (ix1 l)) (v1492 (ix1 l)) := by
  unfold k0_pay268
  exact congrArg₂ FloatOps.addf (rfl) (rfl)

theorem k0_pay269_lane (v1497 : FVec F S16 .f32) (v1502 : FVec F S16 .f32) (l : Fin 16) :
    k0_pay269 v1497 v1502 (ix1 l) = FloatOps.addf (v1497 (ix1 l)) (v1502 (ix1 l)) := by
  unfold k0_pay269
  exact congrArg₂ FloatOps.addf (rfl) (rfl)

theorem k0_pay270_lane (v1507 : FVec F S16 .f32) (v1512 : FVec F S16 .f32) (l : Fin 16) :
    k0_pay270 v1507 v1512 (ix1 l) = FloatOps.addf (v1507 (ix1 l)) (v1512 (ix1 l)) := by
  unfold k0_pay270
  exact congrArg₂ FloatOps.addf (rfl) (rfl)

theorem k0_pay271_lane (v1517 : FVec F S16 .f32) (v1522 : FVec F S16 .f32) (l : Fin 16) :
    k0_pay271 v1517 v1522 (ix1 l) = FloatOps.addf (v1517 (ix1 l)) (v1522 (ix1 l)) := by
  unfold k0_pay271
  exact congrArg₂ FloatOps.addf (rfl) (rfl)

theorem k0_pay272_lane (v1527 : FVec F S16 .f32) (v1532 : FVec F S16 .f32) (l : Fin 16) :
    k0_pay272 v1527 v1532 (ix1 l) = FloatOps.addf (v1527 (ix1 l)) (v1532 (ix1 l)) := by
  unfold k0_pay272
  exact congrArg₂ FloatOps.addf (rfl) (rfl)

theorem k0_pay273_lane (v1537 : FVec F S16 .f32) (v1542 : FVec F S16 .f32) (l : Fin 16) :
    k0_pay273 v1537 v1542 (ix1 l) = FloatOps.addf (v1537 (ix1 l)) (v1542 (ix1 l)) := by
  unfold k0_pay273
  exact congrArg₂ FloatOps.addf (rfl) (rfl)

theorem k0_pay274_lane (v1547 : FVec F S16 .f32) (v1552 : FVec F S16 .f32) (l : Fin 16) :
    k0_pay274 v1547 v1552 (ix1 l) = FloatOps.addf (v1547 (ix1 l)) (v1552 (ix1 l)) := by
  unfold k0_pay274
  exact congrArg₂ FloatOps.addf (rfl) (rfl)

theorem k0_pay275_lane (v1557 : FVec F S16 .f32) (v1562 : FVec F S16 .f32) (l : Fin 16) :
    k0_pay275 v1557 v1562 (ix1 l) = FloatOps.addf (v1557 (ix1 l)) (v1562 (ix1 l)) := by
  unfold k0_pay275
  exact congrArg₂ FloatOps.addf (rfl) (rfl)

theorem k0_pay276_lane (v1567 : FVec F S16 .f32) (v1572 : FVec F S16 .f32) (l : Fin 16) :
    k0_pay276 v1567 v1572 (ix1 l) = FloatOps.addf (v1567 (ix1 l)) (v1572 (ix1 l)) := by
  unfold k0_pay276
  exact congrArg₂ FloatOps.addf (rfl) (rfl)

theorem k0_pay277_lane (v1577 : FVec F S16 .f32) (v1582 : FVec F S16 .f32) (l : Fin 16) :
    k0_pay277 v1577 v1582 (ix1 l) = FloatOps.addf (v1577 (ix1 l)) (v1582 (ix1 l)) := by
  unfold k0_pay277
  exact congrArg₂ FloatOps.addf (rfl) (rfl)

theorem k0_pay278_lane (v1587 : FVec F S16 .f32) (v1592 : FVec F S16 .f32) (l : Fin 16) :
    k0_pay278 v1587 v1592 (ix1 l) = FloatOps.addf (v1587 (ix1 l)) (v1592 (ix1 l)) := by
  unfold k0_pay278
  exact congrArg₂ FloatOps.addf (rfl) (rfl)

theorem k0_pay279_lane (v1597 : FVec F S16 .f32) (v1602 : FVec F S16 .f32) (l : Fin 16) :
    k0_pay279 v1597 v1602 (ix1 l) = FloatOps.addf (v1597 (ix1 l)) (v1602 (ix1 l)) := by
  unfold k0_pay279
  exact congrArg₂ FloatOps.addf (rfl) (rfl)

theorem k0_pay280_lane (v1607 : FVec F S16 .f32) (v1612 : FVec F S16 .f32) (l : Fin 16) :
    k0_pay280 v1607 v1612 (ix1 l) = FloatOps.addf (v1607 (ix1 l)) (v1612 (ix1 l)) := by
  unfold k0_pay280
  exact congrArg₂ FloatOps.addf (rfl) (rfl)

theorem k0_pay281_lane (v1616 : Vec F S1x1x16 .f32) (v1621 : Vec F S1x1x16 .f32) (l : Fin 16) :
    k0_pay281 v1616 v1621 (ix1 l) = FloatOps.addf (v1616 (ix3 (0 : Fin 1) (0 : Fin 1) l)) (v1621 (ix3 (0 : Fin 1) (0 : Fin 1) l)) := by
  unfold k0_pay281
  exact congrArg₂ FloatOps.addf (cast_16 v1616 l) (cast_16 v1621 l)

theorem k0_pay282_lane (v1626 : Vec F S1x1x16 .f32) (v1631 : Vec F S1x1x16 .f32) (l : Fin 16) :
    k0_pay282 v1626 v1631 (ix1 l) = FloatOps.addf (v1626 (ix3 (0 : Fin 1) (0 : Fin 1) l)) (v1631 (ix3 (0 : Fin 1) (0 : Fin 1) l)) := by
  unfold k0_pay282
  exact congrArg₂ FloatOps.addf (cast_16 v1626 l) (cast_16 v1631 l)

theorem k0_pay283_lane (v1636 : Vec F S1x1x16 .f32) (v1641 : Vec F S1x1x16 .f32) (l : Fin 16) :
    k0_pay283 v1636 v1641 (ix1 l) = FloatOps.addf (v1636 (ix3 (0 : Fin 1) (0 : Fin 1) l)) (v1641 (ix3 (0 : Fin 1) (0 : Fin 1) l)) := by
  unfold k0_pay283
  exact congrArg₂ FloatOps.addf (cast_16 v1636 l) (cast_16 v1641 l)

theorem k0_pay284_lane (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (l : Fin 16) :
    k0_pay284 v1643 v1644 v1645 v1646 v1647 v1648 v1649 v1650 v1651 v1652 v1653 v1654 v1655 v1656 v1657 v1658 (ix1 l) = FloatOps.addf (FloatOps.addf (FloatOps.addf (FloatOps.addf (v1643 (ix1 l)) (v1644 (ix1 l))) (FloatOps.addf (v1645 (ix1 l)) (v1646 (ix1 l)))) (FloatOps.addf (FloatOps.addf (v1647 (ix1 l)) (v1648 (ix1 l))) (FloatOps.addf (v1649 (ix1 l)) (v1650 (ix1 l))))) (FloatOps.addf (FloatOps.addf (FloatOps.addf (v1651 (ix1 l)) (v1652 (ix1 l))) (FloatOps.addf (v1653 (ix1 l)) (v1654 (ix1 l)))) (FloatOps.addf (FloatOps.addf (v1655 (ix1 l)) (v1656 (ix1 l))) (FloatOps.addf (v1657 (ix1 l)) (v1658 (ix1 l))))) := by
  unfold k0_pay284
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))

theorem k0_pay284_tree (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (w : Fin 32 → F .f32) (l : Fin 16)
    (h_v1643 : v1643 (ix1 l) = FloatOps.addf (w 0) (w 1))
    (h_v1644 : v1644 (ix1 l) = FloatOps.addf (w 2) (w 3))
    (h_v1645 : v1645 (ix1 l) = FloatOps.addf (w 4) (w 5))
    (h_v1646 : v1646 (ix1 l) = FloatOps.addf (w 6) (w 7))
    (h_v1647 : v1647 (ix1 l) = FloatOps.addf (w 8) (w 9))
    (h_v1648 : v1648 (ix1 l) = FloatOps.addf (w 10) (w 11))
    (h_v1649 : v1649 (ix1 l) = FloatOps.addf (w 12) (w 13))
    (h_v1650 : v1650 (ix1 l) = FloatOps.addf (w 14) (w 15))
    (h_v1651 : v1651 (ix1 l) = FloatOps.addf (w 16) (w 17))
    (h_v1652 : v1652 (ix1 l) = FloatOps.addf (w 18) (w 19))
    (h_v1653 : v1653 (ix1 l) = FloatOps.addf (w 20) (w 21))
    (h_v1654 : v1654 (ix1 l) = FloatOps.addf (w 22) (w 23))
    (h_v1655 : v1655 (ix1 l) = FloatOps.addf (w 24) (w 25))
    (h_v1656 : v1656 (ix1 l) = FloatOps.addf (w 26) (w 27))
    (h_v1657 : v1657 (ix1 l) = FloatOps.addf (w 28) (w 29))
    (h_v1658 : v1658 (ix1 l) = FloatOps.addf (w 30) (w 31)) :
    k0_pay284 v1643 v1644 v1645 v1646 v1647 v1648 v1649 v1650 v1651 v1652 v1653 v1654 v1655 v1656 v1657 v1658 (ix1 l) = tree32 w := by
  unfold k0_pay284
  exact congrArg₂ FloatOps.addf (congrArg₂ FloatOps.addf (congrArg₂ FloatOps.addf (congrArg₂ FloatOps.addf (h_v1643) (h_v1644)) (congrArg₂ FloatOps.addf (h_v1645) (h_v1646))) (congrArg₂ FloatOps.addf (congrArg₂ FloatOps.addf (h_v1647) (h_v1648)) (congrArg₂ FloatOps.addf (h_v1649) (h_v1650)))) (congrArg₂ FloatOps.addf (congrArg₂ FloatOps.addf (congrArg₂ FloatOps.addf (h_v1651) (h_v1652)) (congrArg₂ FloatOps.addf (h_v1653) (h_v1654))) (congrArg₂ FloatOps.addf (congrArg₂ FloatOps.addf (h_v1655) (h_v1656)) (congrArg₂ FloatOps.addf (h_v1657) (h_v1658))))

theorem k0_pay285_lane (v114 : Vec F S1x1x16 .f32) (l : Fin 16) :
    k0_pay285 v114 (ix1 l) = v114 (ix3 (0 : Fin 1) (0 : Fin 1) l) := by
  unfold k0_pay285
  exact cast_16 v114 l

theorem k0_pay286_lane (v119 : Vec F S1x1x16 .f32) (l : Fin 16) :
    k0_pay286 v119 (ix1 l) = v119 (ix3 (0 : Fin 1) (0 : Fin 1) l) := by
  unfold k0_pay286
  exact cast_16 v119 l

theorem k0_pay287_lane (v124 : Vec F S1x1x16 .f32) (l : Fin 16) :
    k0_pay287 v124 (ix1 l) = v124 (ix3 (0 : Fin 1) (0 : Fin 1) l) := by
  unfold k0_pay287
  exact cast_16 v124 l

theorem k0_pay288_lane (v129 : Vec F S1x1x16 .f32) (l : Fin 16) :
    k0_pay288 v129 (ix1 l) = v129 (ix3 (0 : Fin 1) (0 : Fin 1) l) := by
  unfold k0_pay288
  exact cast_16 v129 l

theorem k0_pay289_lane (v134 : Vec F S1x1x16 .f32) (l : Fin 16) :
    k0_pay289 v134 (ix1 l) = v134 (ix3 (0 : Fin 1) (0 : Fin 1) l) := by
  unfold k0_pay289
  exact cast_16 v134 l

theorem k0_pay290_lane (v139 : Vec F S1x1x16 .f32) (l : Fin 16) :
    k0_pay290 v139 (ix1 l) = v139 (ix3 (0 : Fin 1) (0 : Fin 1) l) := by
  unfold k0_pay290
  exact cast_16 v139 l

theorem k0_pay291_lane (v144 : Vec F S1x1x16 .f32) (l : Fin 16) :
    k0_pay291 v144 (ix1 l) = v144 (ix3 (0 : Fin 1) (0 : Fin 1) l) := by
  unfold k0_pay291
  exact cast_16 v144 l

theorem k0_pay292_lane (v149 : Vec F S1x1x16 .f32) (l : Fin 16) :
    k0_pay292 v149 (ix1 l) = v149 (ix3 (0 : Fin 1) (0 : Fin 1) l) := by
  unfold k0_pay292
  exact cast_16 v149 l

theorem k0_pay293_lane (v154 : Vec F S1x1x16 .f32) (l : Fin 16) :
    k0_pay293 v154 (ix1 l) = v154 (ix3 (0 : Fin 1) (0 : Fin 1) l) := by
  unfold k0_pay293
  exact cast_16 v154 l

theorem k0_pay294_lane (v159 : Vec F S1x1x16 .f32) (l : Fin 16) :
    k0_pay294 v159 (ix1 l) = v159 (ix3 (0 : Fin 1) (0 : Fin 1) l) := by
  unfold k0_pay294
  exact cast_16 v159 l

theorem k0_pay295_lane (v164 : Vec F S1x1x16 .f32) (l : Fin 16) :
    k0_pay295 v164 (ix1 l) = v164 (ix3 (0 : Fin 1) (0 : Fin 1) l) := by
  unfold k0_pay295
  exact cast_16 v164 l

theorem k0_pay296_lane (v169 : Vec F S1x1x16 .f32) (l : Fin 16) :
    k0_pay296 v169 (ix1 l) = v169 (ix3 (0 : Fin 1) (0 : Fin 1) l) := by
  unfold k0_pay296
  exact cast_16 v169 l

theorem k0_pay297_lane (v174 : Vec F S1x1x16 .f32) (l : Fin 16) :
    k0_pay297 v174 (ix1 l) = v174 (ix3 (0 : Fin 1) (0 : Fin 1) l) := by
  unfold k0_pay297
  exact cast_16 v174 l

theorem k0_pay298_lane (v179 : Vec F S1x1x16 .f32) (l : Fin 16) :
    k0_pay298 v179 (ix1 l) = v179 (ix3 (0 : Fin 1) (0 : Fin 1) l) := by
  unfold k0_pay298
  exact cast_16 v179 l

theorem k0_pay299_lane (v184 : Vec F S1x1x16 .f32) (l : Fin 16) :
    k0_pay299 v184 (ix1 l) = v184 (ix3 (0 : Fin 1) (0 : Fin 1) l) := by
  unfold k0_pay299
  exact cast_16 v184 l

theorem k0_pay300_lane (v189 : Vec F S1x1x16 .f32) (l : Fin 16) :
    k0_pay300 v189 (ix1 l) = v189 (ix3 (0 : Fin 1) (0 : Fin 1) l) := by
  unfold k0_pay300
  exact cast_16 v189 l

theorem k0_pay301_lane (v194 : Vec F S1x1x16 .f32) (l : Fin 16) :
    k0_pay301 v194 (ix1 l) = v194 (ix3 (0 : Fin 1) (0 : Fin 1) l) := by
  unfold k0_pay301
  exact cast_16 v194 l

theorem k0_pay302_lane (v199 : Vec F S1x1x16 .f32) (l : Fin 16) :
    k0_pay302 v199 (ix1 l) = v199 (ix3 (0 : Fin 1) (0 : Fin 1) l) := by
  unfold k0_pay302
  exact cast_16 v199 l

theorem k0_pay303_lane (v204 : Vec F S1x1x16 .f32) (l : Fin 16) :
    k0_pay303 v204 (ix1 l) = v204 (ix3 (0 : Fin 1) (0 : Fin 1) l) := by
  unfold k0_pay303
  exact cast_16 v204 l

theorem k0_pay304_lane (v209 : Vec F S1x1x16 .f32) (l : Fin 16) :
    k0_pay304 v209 (ix1 l) = v209 (ix3 (0 : Fin 1) (0 : Fin 1) l) := by
  unfold k0_pay304
  exact cast_16 v209 l

theorem k0_pay305_lane (v214 : Vec F S1x1x16 .f32) (l : Fin 16) :
    k0_pay305 v214 (ix1 l) = v214 (ix3 (0 : Fin 1) (0 : Fin 1) l) := by
  unfold k0_pay305
  exact cast_16 v214 l

theorem k0_pay306_lane (v219 : Vec F S1x1x16 .f32) (l : Fin 16) :
    k0_pay306 v219 (ix1 l) = v219 (ix3 (0 : Fin 1) (0 : Fin 1) l) := by
  unfold k0_pay306
  exact cast_16 v219 l

theorem k0_pay307_lane (v224 : Vec F S1x1x16 .f32) (l : Fin 16) :
    k0_pay307 v224 (ix1 l) = v224 (ix3 (0 : Fin 1) (0 : Fin 1) l) := by
  unfold k0_pay307
  exact cast_16 v224 l

theorem k0_pay308_lane (v229 : Vec F S1x1x16 .f32) (l : Fin 16) :
    k0_pay308 v229 (ix1 l) = v229 (ix3 (0 : Fin 1) (0 : Fin 1) l) := by
  unfold k0_pay308
  exact cast_16 v229 l

theorem k0_pay309_lane (v234 : Vec F S1x1x16 .f32) (l : Fin 16) :
    k0_pay309 v234 (ix1 l) = v234 (ix3 (0 : Fin 1) (0 : Fin 1) l) := by
  unfold k0_pay309
  exact cast_16 v234 l

theorem k0_pay310_lane (v239 : Vec F S1x1x16 .f32) (l : Fin 16) :
    k0_pay310 v239 (ix1 l) = v239 (ix3 (0 : Fin 1) (0 : Fin 1) l) := by
  unfold k0_pay310
  exact cast_16 v239 l

theorem k0_pay311_lane (v244 : Vec F S1x1x16 .f32) (l : Fin 16) :
    k0_pay311 v244 (ix1 l) = v244 (ix3 (0 : Fin 1) (0 : Fin 1) l) := by
  unfold k0_pay311
  exact cast_16 v244 l

theorem k0_pay312_lane (v249 : Vec F S1x1x16 .f32) (l : Fin 16) :
    k0_pay312 v249 (ix1 l) = v249 (ix3 (0 : Fin 1) (0 : Fin 1) l) := by
  unfold k0_pay312
  exact cast_16 v249 l

theorem k0_pay313_lane (v254 : Vec F S1x1x16 .f32) (l : Fin 16) :
    k0_pay313 v254 (ix1 l) = v254 (ix3 (0 : Fin 1) (0 : Fin 1) l) := by
  unfold k0_pay313
  exact cast_16 v254 l

theorem k0_pay314_lane (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (l : Fin 16) :
    k0_pay314 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = FloatOps.addf (FloatOps.addf (FloatOps.addf (FloatOps.addf (FloatOps.addf (v115 (ix1 l)) (v120 (ix1 l))) (FloatOps.addf (v125 (ix1 l)) (v130 (ix1 l)))) (FloatOps.addf (FloatOps.addf (v135 (ix1 l)) (v140 (ix1 l))) (FloatOps.addf (v145 (ix1 l)) (v150 (ix1 l))))) (FloatOps.addf (FloatOps.addf (FloatOps.addf (v155 (ix1 l)) (v160 (ix1 l))) (FloatOps.addf (v165 (ix1 l)) (v170 (ix1 l)))) (FloatOps.addf (FloatOps.addf (v175 (ix1 l)) (v180 (ix1 l))) (FloatOps.addf (v185 (ix1 l)) (v190 (ix1 l)))))) (FloatOps.addf (FloatOps.addf (FloatOps.addf (FloatOps.addf (v195 (ix1 l)) (v200 (ix1 l))) (FloatOps.addf (v205 (ix1 l)) (v210 (ix1 l)))) (FloatOps.addf (FloatOps.addf (v215 (ix1 l)) (v220 (ix1 l))) (FloatOps.addf (v225 (ix1 l)) (v230 (ix1 l))))) (FloatOps.addf (FloatOps.addf (FloatOps.addf (v235 (ix1 l)) (v240 (ix1 l))) (FloatOps.addf (v245 (ix1 l)) (v250 (ix1 l)))) (FloatOps.addf (FloatOps.addf (v255 (ix1 l)) (v259 (ix3 (0 : Fin 1) (0 : Fin 1) l))) (FloatOps.addf (v264 (ix3 (0 : Fin 1) (0 : Fin 1) l)) (v269 (ix3 (0 : Fin 1) (0 : Fin 1) l)))))) := by
  unfold k0_pay314
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (cast_16 v259 l)) (congrArg₂ FloatOps.addf (cast_16 v264 l) (cast_16 v269 l)))))

theorem k0_pay314_tree (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (w : Fin 32 → F .f32) (l : Fin 16)
    (h_v115 : v115 (ix1 l) = w 0)
    (h_v120 : v120 (ix1 l) = w 1)
    (h_v125 : v125 (ix1 l) = w 2)
    (h_v130 : v130 (ix1 l) = w 3)
    (h_v135 : v135 (ix1 l) = w 4)
    (h_v140 : v140 (ix1 l) = w 5)
    (h_v145 : v145 (ix1 l) = w 6)
    (h_v150 : v150 (ix1 l) = w 7)
    (h_v155 : v155 (ix1 l) = w 8)
    (h_v160 : v160 (ix1 l) = w 9)
    (h_v165 : v165 (ix1 l) = w 10)
    (h_v170 : v170 (ix1 l) = w 11)
    (h_v175 : v175 (ix1 l) = w 12)
    (h_v180 : v180 (ix1 l) = w 13)
    (h_v185 : v185 (ix1 l) = w 14)
    (h_v190 : v190 (ix1 l) = w 15)
    (h_v195 : v195 (ix1 l) = w 16)
    (h_v200 : v200 (ix1 l) = w 17)
    (h_v205 : v205 (ix1 l) = w 18)
    (h_v210 : v210 (ix1 l) = w 19)
    (h_v215 : v215 (ix1 l) = w 20)
    (h_v220 : v220 (ix1 l) = w 21)
    (h_v225 : v225 (ix1 l) = w 22)
    (h_v230 : v230 (ix1 l) = w 23)
    (h_v235 : v235 (ix1 l) = w 24)
    (h_v240 : v240 (ix1 l) = w 25)
    (h_v245 : v245 (ix1 l) = w 26)
    (h_v250 : v250 (ix1 l) = w 27)
    (h_v255 : v255 (ix1 l) = w 28)
    (h_v259 : v259 (ix3 (0 : Fin 1) (0 : Fin 1) l) = w 29)
    (h_v264 : v264 (ix3 (0 : Fin 1) (0 : Fin 1) l) = w 30)
    (h_v269 : v269 (ix3 (0 : Fin 1) (0 : Fin 1) l) = w 31) :
    k0_pay314 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = tree32 w := by
  unfold k0_pay314
  refine (cast_116 _ l).trans ?_
  exact congrArg₂ FloatOps.addf (congrArg₂ FloatOps.addf (congrArg₂ FloatOps.addf (congrArg₂ FloatOps.addf (congrArg₂ FloatOps.addf (h_v115) (h_v120)) (congrArg₂ FloatOps.addf (h_v125) (h_v130))) (congrArg₂ FloatOps.addf (congrArg₂ FloatOps.addf (h_v135) (h_v140)) (congrArg₂ FloatOps.addf (h_v145) (h_v150)))) (congrArg₂ FloatOps.addf (congrArg₂ FloatOps.addf (congrArg₂ FloatOps.addf (h_v155) (h_v160)) (congrArg₂ FloatOps.addf (h_v165) (h_v170))) (congrArg₂ FloatOps.addf (congrArg₂ FloatOps.addf (h_v175) (h_v180)) (congrArg₂ FloatOps.addf (h_v185) (h_v190))))) (congrArg₂ FloatOps.addf (congrArg₂ FloatOps.addf (congrArg₂ FloatOps.addf (congrArg₂ FloatOps.addf (h_v195) (h_v200)) (congrArg₂ FloatOps.addf (h_v205) (h_v210))) (congrArg₂ FloatOps.addf (congrArg₂ FloatOps.addf (h_v215) (h_v220)) (congrArg₂ FloatOps.addf (h_v225) (h_v230)))) (congrArg₂ FloatOps.addf (congrArg₂ FloatOps.addf (congrArg₂ FloatOps.addf (h_v235) (h_v240)) (congrArg₂ FloatOps.addf (h_v245) (h_v250))) (congrArg₂ FloatOps.addf (congrArg₂ FloatOps.addf (h_v255) ((cast_16 v259 l).trans h_v259)) (congrArg₂ FloatOps.addf ((cast_16 v264 l).trans h_v264) ((cast_16 v269 l).trans h_v269)))))

theorem k0_pay315_lane (v310 : Vec F S1x1x16 .f32) (l : Fin 16) :
    k0_pay315 v310 (ix1 l) = v310 (ix3 (0 : Fin 1) (0 : Fin 1) l) := by
  unfold k0_pay315
  exact cast_16 v310 l

theorem k0_pay316_lane (v315 : Vec F S1x1x16 .f32) (l : Fin 16) :
    k0_pay316 v315 (ix1 l) = v315 (ix3 (0 : Fin 1) (0 : Fin 1) l) := by
  unfold k0_pay316
  exact cast_16 v315 l

theorem k0_pay317_lane (v320 : Vec F S1x1x16 .f32) (l : Fin 16) :
    k0_pay317 v320 (ix1 l) = v320 (ix3 (0 : Fin 1) (0 : Fin 1) l) := by
  unfold k0_pay317
  exact cast_16 v320 l

theorem k0_pay318_lane (v325 : Vec F S1x1x16 .f32) (l : Fin 16) :
    k0_pay318 v325 (ix1 l) = v325 (ix3 (0 : Fin 1) (0 : Fin 1) l) := by
  unfold k0_pay318
  exact cast_16 v325 l

theorem k0_pay319_lane (v330 : Vec F S1x1x16 .f32) (l : Fin 16) :
    k0_pay319 v330 (ix1 l) = v330 (ix3 (0 : Fin 1) (0 : Fin 1) l) := by
  unfold k0_pay319
  exact cast_16 v330 l

theorem k0_pay320_lane (v335 : Vec F S1x1x16 .f32) (l : Fin 16) :
    k0_pay320 v335 (ix1 l) = v335 (ix3 (0 : Fin 1) (0 : Fin 1) l) := by
  unfold k0_pay320
  exact cast_16 v335 l

theorem k0_pay321_lane (v340 : Vec F S1x1x16 .f32) (l : Fin 16) :
    k0_pay321 v340 (ix1 l) = v340 (ix3 (0 : Fin 1) (0 : Fin 1) l) := by
  unfold k0_pay321
  exact cast_16 v340 l

theorem k0_pay322_lane (v345 : Vec F S1x1x16 .f32) (l : Fin 16) :
    k0_pay322 v345 (ix1 l) = v345 (ix3 (0 : Fin 1) (0 : Fin 1) l) := by
  unfold k0_pay322
  exact cast_16 v345 l

theorem k0_pay323_lane (v350 : Vec F S1x1x16 .f32) (l : Fin 16) :
    k0_pay323 v350 (ix1 l) = v350 (ix3 (0 : Fin 1) (0 : Fin 1) l) := by
  unfold k0_pay323
  exact cast_16 v350 l

theorem k0_pay324_lane (v355 : Vec F S1x1x16 .f32) (l : Fin 16) :
    k0_pay324 v355 (ix1 l) = v355 (ix3 (0 : Fin 1) (0 : Fin 1) l) := by
  unfold k0_pay324
  exact cast_16 v355 l

theorem k0_pay325_lane (v360 : Vec F S1x1x16 .f32) (l : Fin 16) :
    k0_pay325 v360 (ix1 l) = v360 (ix3 (0 : Fin 1) (0 : Fin 1) l) := by
  unfold k0_pay325
  exact cast_16 v360 l

theorem k0_pay326_lane (v365 : Vec F S1x1x16 .f32) (l : Fin 16) :
    k0_pay326 v365 (ix1 l) = v365 (ix3 (0 : Fin 1) (0 : Fin 1) l) := by
  unfold k0_pay326
  exact cast_16 v365 l

theorem k0_pay327_lane (v370 : Vec F S1x1x16 .f32) (l : Fin 16) :
    k0_pay327 v370 (ix1 l) = v370 (ix3 (0 : Fin 1) (0 : Fin 1) l) := by
  unfold k0_pay327
  exact cast_16 v370 l

theorem k0_pay328_lane (v375 : Vec F S1x1x16 .f32) (l : Fin 16) :
    k0_pay328 v375 (ix1 l) = v375 (ix3 (0 : Fin 1) (0 : Fin 1) l) := by
  unfold k0_pay328
  exact cast_16 v375 l

theorem k0_pay329_lane (v380 : Vec F S1x1x16 .f32) (l : Fin 16) :
    k0_pay329 v380 (ix1 l) = v380 (ix3 (0 : Fin 1) (0 : Fin 1) l) := by
  unfold k0_pay329
  exact cast_16 v380 l

theorem k0_pay330_lane (v385 : Vec F S1x1x16 .f32) (l : Fin 16) :
    k0_pay330 v385 (ix1 l) = v385 (ix3 (0 : Fin 1) (0 : Fin 1) l) := by
  unfold k0_pay330
  exact cast_16 v385 l

theorem k0_pay331_lane (v390 : Vec F S1x1x16 .f32) (l : Fin 16) :
    k0_pay331 v390 (ix1 l) = v390 (ix3 (0 : Fin 1) (0 : Fin 1) l) := by
  unfold k0_pay331
  exact cast_16 v390 l

theorem k0_pay332_lane (v395 : Vec F S1x1x16 .f32) (l : Fin 16) :
    k0_pay332 v395 (ix1 l) = v395 (ix3 (0 : Fin 1) (0 : Fin 1) l) := by
  unfold k0_pay332
  exact cast_16 v395 l

theorem k0_pay333_lane (v400 : Vec F S1x1x16 .f32) (l : Fin 16) :
    k0_pay333 v400 (ix1 l) = v400 (ix3 (0 : Fin 1) (0 : Fin 1) l) := by
  unfold k0_pay333
  exact cast_16 v400 l

theorem k0_pay334_lane (v405 : Vec F S1x1x16 .f32) (l : Fin 16) :
    k0_pay334 v405 (ix1 l) = v405 (ix3 (0 : Fin 1) (0 : Fin 1) l) := by
  unfold k0_pay334
  exact cast_16 v405 l

theorem k0_pay335_lane (v410 : Vec F S1x1x16 .f32) (l : Fin 16) :
    k0_pay335 v410 (ix1 l) = v410 (ix3 (0 : Fin 1) (0 : Fin 1) l) := by
  unfold k0_pay335
  exact cast_16 v410 l

theorem k0_pay336_lane (v415 : Vec F S1x1x16 .f32) (l : Fin 16) :
    k0_pay336 v415 (ix1 l) = v415 (ix3 (0 : Fin 1) (0 : Fin 1) l) := by
  unfold k0_pay336
  exact cast_16 v415 l

theorem k0_pay337_lane (v420 : Vec F S1x1x16 .f32) (l : Fin 16) :
    k0_pay337 v420 (ix1 l) = v420 (ix3 (0 : Fin 1) (0 : Fin 1) l) := by
  unfold k0_pay337
  exact cast_16 v420 l

theorem k0_pay338_lane (v425 : Vec F S1x1x16 .f32) (l : Fin 16) :
    k0_pay338 v425 (ix1 l) = v425 (ix3 (0 : Fin 1) (0 : Fin 1) l) := by
  unfold k0_pay338
  exact cast_16 v425 l

theorem k0_pay339_lane (v430 : Vec F S1x1x16 .f32) (l : Fin 16) :
    k0_pay339 v430 (ix1 l) = v430 (ix3 (0 : Fin 1) (0 : Fin 1) l) := by
  unfold k0_pay339
  exact cast_16 v430 l

theorem k0_pay340_lane (v435 : Vec F S1x1x16 .f32) (l : Fin 16) :
    k0_pay340 v435 (ix1 l) = v435 (ix3 (0 : Fin 1) (0 : Fin 1) l) := by
  unfold k0_pay340
  exact cast_16 v435 l

theorem k0_pay341_lane (v440 : Vec F S1x1x16 .f32) (l : Fin 16) :
    k0_pay341 v440 (ix1 l) = v440 (ix3 (0 : Fin 1) (0 : Fin 1) l) := by
  unfold k0_pay341
  exact cast_16 v440 l

theorem k0_pay342_lane (v445 : Vec F S1x1x16 .f32) (l : Fin 16) :
    k0_pay342 v445 (ix1 l) = v445 (ix3 (0 : Fin 1) (0 : Fin 1) l) := by
  unfold k0_pay342
  exact cast_16 v445 l

theorem k0_pay343_lane (v450 : Vec F S1x1x16 .f32) (l : Fin 16) :
    k0_pay343 v450 (ix1 l) = v450 (ix3 (0 : Fin 1) (0 : Fin 1) l) := by
  unfold k0_pay343
  exact cast_16 v450 l

theorem k0_pay344_lane (v455 : Vec F S1x1x16 .f32) (l : Fin 16) :
    k0_pay344 v455 (ix1 l) = v455 (ix3 (0 : Fin 1) (0 : Fin 1) l) := by
  unfold k0_pay344
  exact cast_16 v455 l

theorem k0_pay345_lane (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (l : Fin 16) :
    k0_pay345 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = FloatOps.addf (FloatOps.addf (FloatOps.addf (FloatOps.addf (FloatOps.addf (v311 (ix1 l)) (v316 (ix1 l))) (FloatOps.addf (v321 (ix1 l)) (v326 (ix1 l)))) (FloatOps.addf (FloatOps.addf (v331 (ix1 l)) (v336 (ix1 l))) (FloatOps.addf (v341 (ix1 l)) (v346 (ix1 l))))) (FloatOps.addf (FloatOps.addf (FloatOps.addf (v351 (ix1 l)) (v356 (ix1 l))) (FloatOps.addf (v361 (ix1 l)) (v366 (ix1 l)))) (FloatOps.addf (FloatOps.addf (v371 (ix1 l)) (v376 (ix1 l))) (FloatOps.addf (v381 (ix1 l)) (v386 (ix1 l)))))) (FloatOps.addf (FloatOps.addf (FloatOps.addf (FloatOps.addf (v391 (ix1 l)) (v396 (ix1 l))) (FloatOps.addf (v401 (ix1 l)) (v406 (ix1 l)))) (FloatOps.addf (FloatOps.addf (v411 (ix1 l)) (v416 (ix1 l))) (FloatOps.addf (v421 (ix1 l)) (v426 (ix1 l))))) (FloatOps.addf (FloatOps.addf (FloatOps.addf (v431 (ix1 l)) (v436 (ix1 l))) (FloatOps.addf (v441 (ix1 l)) (v446 (ix1 l)))) (FloatOps.addf (FloatOps.addf (v451 (ix1 l)) (v456 (ix1 l))) (FloatOps.addf (v460 (ix3 (0 : Fin 1) (0 : Fin 1) l)) (v465 (ix3 (0 : Fin 1) (0 : Fin 1) l)))))) := by
  unfold k0_pay345
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v460 l) (cast_16 v465 l)))))

theorem k0_pay345_tree (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (w : Fin 32 → F .f32) (l : Fin 16)
    (h_v311 : v311 (ix1 l) = w 0)
    (h_v316 : v316 (ix1 l) = w 1)
    (h_v321 : v321 (ix1 l) = w 2)
    (h_v326 : v326 (ix1 l) = w 3)
    (h_v331 : v331 (ix1 l) = w 4)
    (h_v336 : v336 (ix1 l) = w 5)
    (h_v341 : v341 (ix1 l) = w 6)
    (h_v346 : v346 (ix1 l) = w 7)
    (h_v351 : v351 (ix1 l) = w 8)
    (h_v356 : v356 (ix1 l) = w 9)
    (h_v361 : v361 (ix1 l) = w 10)
    (h_v366 : v366 (ix1 l) = w 11)
    (h_v371 : v371 (ix1 l) = w 12)
    (h_v376 : v376 (ix1 l) = w 13)
    (h_v381 : v381 (ix1 l) = w 14)
    (h_v386 : v386 (ix1 l) = w 15)
    (h_v391 : v391 (ix1 l) = w 16)
    (h_v396 : v396 (ix1 l) = w 17)
    (h_v401 : v401 (ix1 l) = w 18)
    (h_v406 : v406 (ix1 l) = w 19)
    (h_v411 : v411 (ix1 l) = w 20)
    (h_v416 : v416 (ix1 l) = w 21)
    (h_v421 : v421 (ix1 l) = w 22)
    (h_v426 : v426 (ix1 l) = w 23)
    (h_v431 : v431 (ix1 l) = w 24)
    (h_v436 : v436 (ix1 l) = w 25)
    (h_v441 : v441 (ix1 l) = w 26)
    (h_v446 : v446 (ix1 l) = w 27)
    (h_v451 : v451 (ix1 l) = w 28)
    (h_v456 : v456 (ix1 l) = w 29)
    (h_v460 : v460 (ix3 (0 : Fin 1) (0 : Fin 1) l) = w 30)
    (h_v465 : v465 (ix3 (0 : Fin 1) (0 : Fin 1) l) = w 31) :
    k0_pay345 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = tree32 w := by
  unfold k0_pay345
  refine (cast_116 _ l).trans ?_
  exact congrArg₂ FloatOps.addf (congrArg₂ FloatOps.addf (congrArg₂ FloatOps.addf (congrArg₂ FloatOps.addf (congrArg₂ FloatOps.addf (h_v311) (h_v316)) (congrArg₂ FloatOps.addf (h_v321) (h_v326))) (congrArg₂ FloatOps.addf (congrArg₂ FloatOps.addf (h_v331) (h_v336)) (congrArg₂ FloatOps.addf (h_v341) (h_v346)))) (congrArg₂ FloatOps.addf (congrArg₂ FloatOps.addf (congrArg₂ FloatOps.addf (h_v351) (h_v356)) (congrArg₂ FloatOps.addf (h_v361) (h_v366))) (congrArg₂ FloatOps.addf (congrArg₂ FloatOps.addf (h_v371) (h_v376)) (congrArg₂ FloatOps.addf (h_v381) (h_v386))))) (congrArg₂ FloatOps.addf (congrArg₂ FloatOps.addf (congrArg₂ FloatOps.addf (congrArg₂ FloatOps.addf (h_v391) (h_v396)) (congrArg₂ FloatOps.addf (h_v401) (h_v406))) (congrArg₂ FloatOps.addf (congrArg₂ FloatOps.addf (h_v411) (h_v416)) (congrArg₂ FloatOps.addf (h_v421) (h_v426)))) (congrArg₂ FloatOps.addf (congrArg₂ FloatOps.addf (congrArg₂ FloatOps.addf (h_v431) (h_v436)) (congrArg₂ FloatOps.addf (h_v441) (h_v446))) (congrArg₂ FloatOps.addf (congrArg₂ FloatOps.addf (h_v451) (h_v456)) (congrArg₂ FloatOps.addf ((cast_16 v460 l).trans h_v460) ((cast_16 v465 l).trans h_v465)))))

theorem k0_pay346_lane (v506 : Vec F S1x1x16 .f32) (l : Fin 16) :
    k0_pay346 v506 (ix1 l) = v506 (ix3 (0 : Fin 1) (0 : Fin 1) l) := by
  unfold k0_pay346
  exact cast_16 v506 l

theorem k0_pay347_lane (v511 : Vec F S1x1x16 .f32) (l : Fin 16) :
    k0_pay347 v511 (ix1 l) = v511 (ix3 (0 : Fin 1) (0 : Fin 1) l) := by
  unfold k0_pay347
  exact cast_16 v511 l

theorem k0_pay348_lane (v516 : Vec F S1x1x16 .f32) (l : Fin 16) :
    k0_pay348 v516 (ix1 l) = v516 (ix3 (0 : Fin 1) (0 : Fin 1) l) := by
  unfold k0_pay348
  exact cast_16 v516 l

theorem k0_pay349_lane (v521 : Vec F S1x1x16 .f32) (l : Fin 16) :
    k0_pay349 v521 (ix1 l) = v521 (ix3 (0 : Fin 1) (0 : Fin 1) l) := by
  unfold k0_pay349
  exact cast_16 v521 l

theorem k0_pay350_lane (v526 : Vec F S1x1x16 .f32) (l : Fin 16) :
    k0_pay350 v526 (ix1 l) = v526 (ix3 (0 : Fin 1) (0 : Fin 1) l) := by
  unfold k0_pay350
  exact cast_16 v526 l

theorem k0_pay351_lane (v531 : Vec F S1x1x16 .f32) (l : Fin 16) :
    k0_pay351 v531 (ix1 l) = v531 (ix3 (0 : Fin 1) (0 : Fin 1) l) := by
  unfold k0_pay351
  exact cast_16 v531 l

theorem k0_pay352_lane (v536 : Vec F S1x1x16 .f32) (l : Fin 16) :
    k0_pay352 v536 (ix1 l) = v536 (ix3 (0 : Fin 1) (0 : Fin 1) l) := by
  unfold k0_pay352
  exact cast_16 v536 l

theorem k0_pay353_lane (v541 : Vec F S1x1x16 .f32) (l : Fin 16) :
    k0_pay353 v541 (ix1 l) = v541 (ix3 (0 : Fin 1) (0 : Fin 1) l) := by
  unfold k0_pay353
  exact cast_16 v541 l

theorem k0_pay354_lane (v546 : Vec F S1x1x16 .f32) (l : Fin 16) :
    k0_pay354 v546 (ix1 l) = v546 (ix3 (0 : Fin 1) (0 : Fin 1) l) := by
  unfold k0_pay354
  exact cast_16 v546 l

theorem k0_pay355_lane (v551 : Vec F S1x1x16 .f32) (l : Fin 16) :
    k0_pay355 v551 (ix1 l) = v551 (ix3 (0 : Fin 1) (0 : Fin 1) l) := by
  unfold k0_pay355
  exact cast_16 v551 l

theorem k0_pay356_lane (v556 : Vec F S1x1x16 .f32) (l : Fin 16) :
    k0_pay356 v556 (ix1 l) = v556 (ix3 (0 : Fin 1) (0 : Fin 1) l) := by
  unfold k0_pay356
  exact cast_16 v556 l

theorem k0_pay357_lane (v561 : Vec F S1x1x16 .f32) (l : Fin 16) :
    k0_pay357 v561 (ix1 l) = v561 (ix3 (0 : Fin 1) (0 : Fin 1) l) := by
  unfold k0_pay357
  exact cast_16 v561 l

theorem k0_pay358_lane (v566 : Vec F S1x1x16 .f32) (l : Fin 16) :
    k0_pay358 v566 (ix1 l) = v566 (ix3 (0 : Fin 1) (0 : Fin 1) l) := by
  unfold k0_pay358
  exact cast_16 v566 l

theorem k0_pay359_lane (v571 : Vec F S1x1x16 .f32) (l : Fin 16) :
    k0_pay359 v571 (ix1 l) = v571 (ix3 (0 : Fin 1) (0 : Fin 1) l) := by
  unfold k0_pay359
  exact cast_16 v571 l

theorem k0_pay360_lane (v576 : Vec F S1x1x16 .f32) (l : Fin 16) :
    k0_pay360 v576 (ix1 l) = v576 (ix3 (0 : Fin 1) (0 : Fin 1) l) := by
  unfold k0_pay360
  exact cast_16 v576 l

theorem k0_pay361_lane (v581 : Vec F S1x1x16 .f32) (l : Fin 16) :
    k0_pay361 v581 (ix1 l) = v581 (ix3 (0 : Fin 1) (0 : Fin 1) l) := by
  unfold k0_pay361
  exact cast_16 v581 l

theorem k0_pay362_lane (v586 : Vec F S1x1x16 .f32) (l : Fin 16) :
    k0_pay362 v586 (ix1 l) = v586 (ix3 (0 : Fin 1) (0 : Fin 1) l) := by
  unfold k0_pay362
  exact cast_16 v586 l

theorem k0_pay363_lane (v591 : Vec F S1x1x16 .f32) (l : Fin 16) :
    k0_pay363 v591 (ix1 l) = v591 (ix3 (0 : Fin 1) (0 : Fin 1) l) := by
  unfold k0_pay363
  exact cast_16 v591 l

theorem k0_pay364_lane (v596 : Vec F S1x1x16 .f32) (l : Fin 16) :
    k0_pay364 v596 (ix1 l) = v596 (ix3 (0 : Fin 1) (0 : Fin 1) l) := by
  unfold k0_pay364
  exact cast_16 v596 l

theorem k0_pay365_lane (v601 : Vec F S1x1x16 .f32) (l : Fin 16) :
    k0_pay365 v601 (ix1 l) = v601 (ix3 (0 : Fin 1) (0 : Fin 1) l) := by
  unfold k0_pay365
  exact cast_16 v601 l

theorem k0_pay366_lane (v606 : Vec F S1x1x16 .f32) (l : Fin 16) :
    k0_pay366 v606 (ix1 l) = v606 (ix3 (0 : Fin 1) (0 : Fin 1) l) := by
  unfold k0_pay366
  exact cast_16 v606 l

theorem k0_pay367_lane (v611 : Vec F S1x1x16 .f32) (l : Fin 16) :
    k0_pay367 v611 (ix1 l) = v611 (ix3 (0 : Fin 1) (0 : Fin 1) l) := by
  unfold k0_pay367
  exact cast_16 v611 l

theorem k0_pay368_lane (v616 : Vec F S1x1x16 .f32) (l : Fin 16) :
    k0_pay368 v616 (ix1 l) = v616 (ix3 (0 : Fin 1) (0 : Fin 1) l) := by
  unfold k0_pay368
  exact cast_16 v616 l

theorem k0_pay369_lane (v621 : Vec F S1x1x16 .f32) (l : Fin 16) :
    k0_pay369 v621 (ix1 l) = v621 (ix3 (0 : Fin 1) (0 : Fin 1) l) := by
  unfold k0_pay369
  exact cast_16 v621 l

theorem k0_pay370_lane (v626 : Vec F S1x1x16 .f32) (l : Fin 16) :
    k0_pay370 v626 (ix1 l) = v626 (ix3 (0 : Fin 1) (0 : Fin 1) l) := by
  unfold k0_pay370
  exact cast_16 v626 l

theorem k0_pay371_lane (v631 : Vec F S1x1x16 .f32) (l : Fin 16) :
    k0_pay371 v631 (ix1 l) = v631 (ix3 (0 : Fin 1) (0 : Fin 1) l) := by
  unfold k0_pay371
  exact cast_16 v631 l

theorem k0_pay372_lane (v636 : Vec F S1x1x16 .f32) (l : Fin 16) :
    k0_pay372 v636 (ix1 l) = v636 (ix3 (0 : Fin 1) (0 : Fin 1) l) := by
  unfold k0_pay372
  exact cast_16 v636 l

theorem k0_pay373_lane (v641 : Vec F S1x1x16 .f32) (l : Fin 16) :
    k0_pay373 v641 (ix1 l) = v641 (ix3 (0 : Fin 1) (0 : Fin 1) l) := by
  unfold k0_pay373
  exact cast_16 v641 l

theorem k0_pay374_lane (v646 : Vec F S1x1x16 .f32) (l : Fin 16) :
    k0_pay374 v646 (ix1 l) = v646 (ix3 (0 : Fin 1) (0 : Fin 1) l) := by
  unfold k0_pay374
  exact cast_16 v646 l

theorem k0_pay375_lane (v651 : Vec F S1x1x16 .f32) (l : Fin 16) :
    k0_pay375 v651 (ix1 l) = v651 (ix3 (0 : Fin 1) (0 : Fin 1) l) := by
  unfold k0_pay375
  exact cast_16 v651 l

theorem k0_pay376_lane (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (l : Fin 16) :
    k0_pay376 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = FloatOps.addf (FloatOps.addf (FloatOps.addf (FloatOps.addf (FloatOps.addf (v507 (ix1 l)) (v512 (ix1 l))) (FloatOps.addf (v517 (ix1 l)) (v522 (ix1 l)))) (FloatOps.addf (FloatOps.addf (v527 (ix1 l)) (v532 (ix1 l))) (FloatOps.addf (v537 (ix1 l)) (v542 (ix1 l))))) (FloatOps.addf (FloatOps.addf (FloatOps.addf (v547 (ix1 l)) (v552 (ix1 l))) (FloatOps.addf (v557 (ix1 l)) (v562 (ix1 l)))) (FloatOps.addf (FloatOps.addf (v567 (ix1 l)) (v572 (ix1 l))) (FloatOps.addf (v577 (ix1 l)) (v582 (ix1 l)))))) (FloatOps.addf (FloatOps.addf (FloatOps.addf (FloatOps.addf (v587 (ix1 l)) (v592 (ix1 l))) (FloatOps.addf (v597 (ix1 l)) (v602 (ix1 l)))) (FloatOps.addf (FloatOps.addf (v607 (ix1 l)) (v612 (ix1 l))) (FloatOps.addf (v617 (ix1 l)) (v622 (ix1 l))))) (FloatOps.addf (FloatOps.addf (FloatOps.addf (v627 (ix1 l)) (v632 (ix1 l))) (FloatOps.addf (v637 (ix1 l)) (v642 (ix1 l)))) (FloatOps.addf (FloatOps.addf (v647 (ix1 l)) (v652 (ix1 l))) (FloatOps.addf (v656 (ix3 (0 : Fin 1) (0 : Fin 1) l)) (v661 (ix3 (0 : Fin 1) (0 : Fin 1) l)))))) := by
  unfold k0_pay376
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v656 l) (cast_16 v661 l)))))

theorem k0_pay376_tree (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (w : Fin 32 → F .f32) (l : Fin 16)
    (h_v507 : v507 (ix1 l) = w 0)
    (h_v512 : v512 (ix1 l) = w 1)
    (h_v517 : v517 (ix1 l) = w 2)
    (h_v522 : v522 (ix1 l) = w 3)
    (h_v527 : v527 (ix1 l) = w 4)
    (h_v532 : v532 (ix1 l) = w 5)
    (h_v537 : v537 (ix1 l) = w 6)
    (h_v542 : v542 (ix1 l) = w 7)
    (h_v547 : v547 (ix1 l) = w 8)
    (h_v552 : v552 (ix1 l) = w 9)
    (h_v557 : v557 (ix1 l) = w 10)
    (h_v562 : v562 (ix1 l) = w 11)
    (h_v567 : v567 (ix1 l) = w 12)
    (h_v572 : v572 (ix1 l) = w 13)
    (h_v577 : v577 (ix1 l) = w 14)
    (h_v582 : v582 (ix1 l) = w 15)
    (h_v587 : v587 (ix1 l) = w 16)
    (h_v592 : v592 (ix1 l) = w 17)
    (h_v597 : v597 (ix1 l) = w 18)
    (h_v602 : v602 (ix1 l) = w 19)
    (h_v607 : v607 (ix1 l) = w 20)
    (h_v612 : v612 (ix1 l) = w 21)
    (h_v617 : v617 (ix1 l) = w 22)
    (h_v622 : v622 (ix1 l) = w 23)
    (h_v627 : v627 (ix1 l) = w 24)
    (h_v632 : v632 (ix1 l) = w 25)
    (h_v637 : v637 (ix1 l) = w 26)
    (h_v642 : v642 (ix1 l) = w 27)
    (h_v647 : v647 (ix1 l) = w 28)
    (h_v652 : v652 (ix1 l) = w 29)
    (h_v656 : v656 (ix3 (0 : Fin 1) (0 : Fin 1) l) = w 30)
    (h_v661 : v661 (ix3 (0 : Fin 1) (0 : Fin 1) l) = w 31) :
    k0_pay376 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = tree32 w := by
  unfold k0_pay376
  refine (cast_116 _ l).trans ?_
  exact congrArg₂ FloatOps.addf (congrArg₂ FloatOps.addf (congrArg₂ FloatOps.addf (congrArg₂ FloatOps.addf (congrArg₂ FloatOps.addf (h_v507) (h_v512)) (congrArg₂ FloatOps.addf (h_v517) (h_v522))) (congrArg₂ FloatOps.addf (congrArg₂ FloatOps.addf (h_v527) (h_v532)) (congrArg₂ FloatOps.addf (h_v537) (h_v542)))) (congrArg₂ FloatOps.addf (congrArg₂ FloatOps.addf (congrArg₂ FloatOps.addf (h_v547) (h_v552)) (congrArg₂ FloatOps.addf (h_v557) (h_v562))) (congrArg₂ FloatOps.addf (congrArg₂ FloatOps.addf (h_v567) (h_v572)) (congrArg₂ FloatOps.addf (h_v577) (h_v582))))) (congrArg₂ FloatOps.addf (congrArg₂ FloatOps.addf (congrArg₂ FloatOps.addf (congrArg₂ FloatOps.addf (h_v587) (h_v592)) (congrArg₂ FloatOps.addf (h_v597) (h_v602))) (congrArg₂ FloatOps.addf (congrArg₂ FloatOps.addf (h_v607) (h_v612)) (congrArg₂ FloatOps.addf (h_v617) (h_v622)))) (congrArg₂ FloatOps.addf (congrArg₂ FloatOps.addf (congrArg₂ FloatOps.addf (h_v627) (h_v632)) (congrArg₂ FloatOps.addf (h_v637) (h_v642))) (congrArg₂ FloatOps.addf (congrArg₂ FloatOps.addf (h_v647) (h_v652)) (congrArg₂ FloatOps.addf ((cast_16 v656 l).trans h_v656) ((cast_16 v661 l).trans h_v661)))))

theorem k0_pay377_lane (v702 : Vec F S1x1x16 .f32) (l : Fin 16) :
    k0_pay377 v702 (ix1 l) = v702 (ix3 (0 : Fin 1) (0 : Fin 1) l) := by
  unfold k0_pay377
  exact cast_16 v702 l

theorem k0_pay378_lane (v707 : Vec F S1x1x16 .f32) (l : Fin 16) :
    k0_pay378 v707 (ix1 l) = v707 (ix3 (0 : Fin 1) (0 : Fin 1) l) := by
  unfold k0_pay378
  exact cast_16 v707 l

theorem k0_pay379_lane (v712 : Vec F S1x1x16 .f32) (l : Fin 16) :
    k0_pay379 v712 (ix1 l) = v712 (ix3 (0 : Fin 1) (0 : Fin 1) l) := by
  unfold k0_pay379
  exact cast_16 v712 l

theorem k0_pay380_lane (v717 : Vec F S1x1x16 .f32) (l : Fin 16) :
    k0_pay380 v717 (ix1 l) = v717 (ix3 (0 : Fin 1) (0 : Fin 1) l) := by
  unfold k0_pay380
  exact cast_16 v717 l

theorem k0_pay381_lane (v722 : Vec F S1x1x16 .f32) (l : Fin 16) :
    k0_pay381 v722 (ix1 l) = v722 (ix3 (0 : Fin 1) (0 : Fin 1) l) := by
  unfold k0_pay381
  exact cast_16 v722 l

theorem k0_pay382_lane (v727 : Vec F S1x1x16 .f32) (l : Fin 16) :
    k0_pay382 v727 (ix1 l) = v727 (ix3 (0 : Fin 1) (0 : Fin 1) l) := by
  unfold k0_pay382
  exact cast_16 v727 l

theorem k0_pay383_lane (v732 : Vec F S1x1x16 .f32) (l : Fin 16) :
    k0_pay383 v732 (ix1 l) = v732 (ix3 (0 : Fin 1) (0 : Fin 1) l) := by
  unfold k0_pay383
  exact cast_16 v732 l

theorem k0_pay384_lane (v737 : Vec F S1x1x16 .f32) (l : Fin 16) :
    k0_pay384 v737 (ix1 l) = v737 (ix3 (0 : Fin 1) (0 : Fin 1) l) := by
  unfold k0_pay384
  exact cast_16 v737 l

theorem k0_pay385_lane (v742 : Vec F S1x1x16 .f32) (l : Fin 16) :
    k0_pay385 v742 (ix1 l) = v742 (ix3 (0 : Fin 1) (0 : Fin 1) l) := by
  unfold k0_pay385
  exact cast_16 v742 l

theorem k0_pay386_lane (v747 : Vec F S1x1x16 .f32) (l : Fin 16) :
    k0_pay386 v747 (ix1 l) = v747 (ix3 (0 : Fin 1) (0 : Fin 1) l) := by
  unfold k0_pay386
  exact cast_16 v747 l

theorem k0_pay387_lane (v752 : Vec F S1x1x16 .f32) (l : Fin 16) :
    k0_pay387 v752 (ix1 l) = v752 (ix3 (0 : Fin 1) (0 : Fin 1) l) := by
  unfold k0_pay387
  exact cast_16 v752 l

theorem k0_pay388_lane (v757 : Vec F S1x1x16 .f32) (l : Fin 16) :
    k0_pay388 v757 (ix1 l) = v757 (ix3 (0 : Fin 1) (0 : Fin 1) l) := by
  unfold k0_pay388
  exact cast_16 v757 l

theorem k0_pay389_lane (v762 : Vec F S1x1x16 .f32) (l : Fin 16) :
    k0_pay389 v762 (ix1 l) = v762 (ix3 (0 : Fin 1) (0 : Fin 1) l) := by
  unfold k0_pay389
  exact cast_16 v762 l

theorem k0_pay390_lane (v767 : Vec F S1x1x16 .f32) (l : Fin 16) :
    k0_pay390 v767 (ix1 l) = v767 (ix3 (0 : Fin 1) (0 : Fin 1) l) := by
  unfold k0_pay390
  exact cast_16 v767 l

theorem k0_pay391_lane (v772 : Vec F S1x1x16 .f32) (l : Fin 16) :
    k0_pay391 v772 (ix1 l) = v772 (ix3 (0 : Fin 1) (0 : Fin 1) l) := by
  unfold k0_pay391
  exact cast_16 v772 l

theorem k0_pay392_lane (v777 : Vec F S1x1x16 .f32) (l : Fin 16) :
    k0_pay392 v777 (ix1 l) = v777 (ix3 (0 : Fin 1) (0 : Fin 1) l) := by
  unfold k0_pay392
  exact cast_16 v777 l

theorem k0_pay393_lane (v782 : Vec F S1x1x16 .f32) (l : Fin 16) :
    k0_pay393 v782 (ix1 l) = v782 (ix3 (0 : Fin 1) (0 : Fin 1) l) := by
  unfold k0_pay393
  exact cast_16 v782 l

theorem k0_pay394_lane (v787 : Vec F S1x1x16 .f32) (l : Fin 16) :
    k0_pay394 v787 (ix1 l) = v787 (ix3 (0 : Fin 1) (0 : Fin 1) l) := by
  unfold k0_pay394
  exact cast_16 v787 l

theorem k0_pay395_lane (v792 : Vec F S1x1x16 .f32) (l : Fin 16) :
    k0_pay395 v792 (ix1 l) = v792 (ix3 (0 : Fin 1) (0 : Fin 1) l) := by
  unfold k0_pay395
  exact cast_16 v792 l

theorem k0_pay396_lane (v797 : Vec F S1x1x16 .f32) (l : Fin 16) :
    k0_pay396 v797 (ix1 l) = v797 (ix3 (0 : Fin 1) (0 : Fin 1) l) := by
  unfold k0_pay396
  exact cast_16 v797 l

theorem k0_pay397_lane (v802 : Vec F S1x1x16 .f32) (l : Fin 16) :
    k0_pay397 v802 (ix1 l) = v802 (ix3 (0 : Fin 1) (0 : Fin 1) l) := by
  unfold k0_pay397
  exact cast_16 v802 l

theorem k0_pay398_lane (v807 : Vec F S1x1x16 .f32) (l : Fin 16) :
    k0_pay398 v807 (ix1 l) = v807 (ix3 (0 : Fin 1) (0 : Fin 1) l) := by
  unfold k0_pay398
  exact cast_16 v807 l

theorem k0_pay399_lane (v812 : Vec F S1x1x16 .f32) (l : Fin 16) :
    k0_pay399 v812 (ix1 l) = v812 (ix3 (0 : Fin 1) (0 : Fin 1) l) := by
  unfold k0_pay399
  exact cast_16 v812 l

theorem k0_pay400_lane (v817 : Vec F S1x1x16 .f32) (l : Fin 16) :
    k0_pay400 v817 (ix1 l) = v817 (ix3 (0 : Fin 1) (0 : Fin 1) l) := by
  unfold k0_pay400
  exact cast_16 v817 l

theorem k0_pay401_lane (v822 : Vec F S1x1x16 .f32) (l : Fin 16) :
    k0_pay401 v822 (ix1 l) = v822 (ix3 (0 : Fin 1) (0 : Fin 1) l) := by
  unfold k0_pay401
  exact cast_16 v822 l

theorem k0_pay402_lane (v827 : Vec F S1x1x16 .f32) (l : Fin 16) :
    k0_pay402 v827 (ix1 l) = v827 (ix3 (0 : Fin 1) (0 : Fin 1) l) := by
  unfold k0_pay402
  exact cast_16 v827 l

theorem k0_pay403_lane (v832 : Vec F S1x1x16 .f32) (l : Fin 16) :
    k0_pay403 v832 (ix1 l) = v832 (ix3 (0 : Fin 1) (0 : Fin 1) l) := by
  unfold k0_pay403
  exact cast_16 v832 l

theorem k0_pay404_lane (v837 : Vec F S1x1x16 .f32) (l : Fin 16) :
    k0_pay404 v837 (ix1 l) = v837 (ix3 (0 : Fin 1) (0 : Fin 1) l) := by
  unfold k0_pay404
  exact cast_16 v837 l

theorem k0_pay405_lane (v842 : Vec F S1x1x16 .f32) (l : Fin 16) :
    k0_pay405 v842 (ix1 l) = v842 (ix3 (0 : Fin 1) (0 : Fin 1) l) := by
  unfold k0_pay405
  exact cast_16 v842 l

theorem k0_pay406_lane (v847 : Vec F S1x1x16 .f32) (l : Fin 16) :
    k0_pay406 v847 (ix1 l) = v847 (ix3 (0 : Fin 1) (0 : Fin 1) l) := by
  unfold k0_pay406
  exact cast_16 v847 l

theorem k0_pay407_lane (v852 : Vec F S1x1x16 .f32) (l : Fin 16) :
    k0_pay407 v852 (ix1 l) = v852 (ix3 (0 : Fin 1) (0 : Fin 1) l) := by
  unfold k0_pay407
  exact cast_16 v852 l

theorem k0_pay408_lane (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (l : Fin 16) :
    k0_pay408 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = FloatOps.addf (FloatOps.addf (FloatOps.addf (FloatOps.addf (FloatOps.addf (v703 (ix1 l)) (v708 (ix1 l))) (FloatOps.addf (v713 (ix1 l)) (v718 (ix1 l)))) (FloatOps.addf (FloatOps.addf (v723 (ix1 l)) (v728 (ix1 l))) (FloatOps.addf (v733 (ix1 l)) (v738 (ix1 l))))) (FloatOps.addf (FloatOps.addf (FloatOps.addf (v743 (ix1 l)) (v748 (ix1 l))) (FloatOps.addf (v753 (ix1 l)) (v758 (ix1 l)))) (FloatOps.addf (FloatOps.addf (v763 (ix1 l)) (v768 (ix1 l))) (FloatOps.addf (v773 (ix1 l)) (v778 (ix1 l)))))) (FloatOps.addf (FloatOps.addf (FloatOps.addf (FloatOps.addf (v783 (ix1 l)) (v788 (ix1 l))) (FloatOps.addf (v793 (ix1 l)) (v798 (ix1 l)))) (FloatOps.addf (FloatOps.addf (v803 (ix1 l)) (v808 (ix1 l))) (FloatOps.addf (v813 (ix1 l)) (v818 (ix1 l))))) (FloatOps.addf (FloatOps.addf (FloatOps.addf (v823 (ix1 l)) (v828 (ix1 l))) (FloatOps.addf (v833 (ix1 l)) (v838 (ix1 l)))) (FloatOps.addf (FloatOps.addf (v843 (ix1 l)) (v848 (ix1 l))) (FloatOps.addf (v853 (ix1 l)) (v857 (ix3 (0 : Fin 1) (0 : Fin 1) l)))))) := by
  unfold k0_pay408
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (cast_16 v857 l)))))

theorem k0_pay408_tree (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (w : Fin 32 → F .f32) (l : Fin 16)
    (h_v703 : v703 (ix1 l) = w 0)
    (h_v708 : v708 (ix1 l) = w 1)
    (h_v713 : v713 (ix1 l) = w 2)
    (h_v718 : v718 (ix1 l) = w 3)
    (h_v723 : v723 (ix1 l) = w 4)
    (h_v728 : v728 (ix1 l) = w 5)
    (h_v733 : v733 (ix1 l) = w 6)
    (h_v738 : v738 (ix1 l) = w 7)
    (h_v743 : v743 (ix1 l) = w 8)
    (h_v748 : v748 (ix1 l) = w 9)
    (h_v753 : v753 (ix1 l) = w 10)
    (h_v758 : v758 (ix1 l) = w 11)
    (h_v763 : v763 (ix1 l) = w 12)
    (h_v768 : v768 (ix1 l) = w 13)
    (h_v773 : v773 (ix1 l) = w 14)
    (h_v778 : v778 (ix1 l) = w 15)
    (h_v783 : v783 (ix1 l) = w 16)
    (h_v788 : v788 (ix1 l) = w 17)
    (h_v793 : v793 (ix1 l) = w 18)
    (h_v798 : v798 (ix1 l) = w 19)
    (h_v803 : v803 (ix1 l) = w 20)
    (h_v808 : v808 (ix1 l) = w 21)
    (h_v813 : v813 (ix1 l) = w 22)
    (h_v818 : v818 (ix1 l) = w 23)
    (h_v823 : v823 (ix1 l) = w 24)
    (h_v828 : v828 (ix1 l) = w 25)
    (h_v833 : v833 (ix1 l) = w 26)
    (h_v838 : v838 (ix1 l) = w 27)
    (h_v843 : v843 (ix1 l) = w 28)
    (h_v848 : v848 (ix1 l) = w 29)
    (h_v853 : v853 (ix1 l) = w 30)
    (h_v857 : v857 (ix3 (0 : Fin 1) (0 : Fin 1) l) = w 31) :
    k0_pay408 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = tree32 w := by
  unfold k0_pay408
  refine (cast_116 _ l).trans ?_
  exact congrArg₂ FloatOps.addf (congrArg₂ FloatOps.addf (congrArg₂ FloatOps.addf (congrArg₂ FloatOps.addf (congrArg₂ FloatOps.addf (h_v703) (h_v708)) (congrArg₂ FloatOps.addf (h_v713) (h_v718))) (congrArg₂ FloatOps.addf (congrArg₂ FloatOps.addf (h_v723) (h_v728)) (congrArg₂ FloatOps.addf (h_v733) (h_v738)))) (congrArg₂ FloatOps.addf (congrArg₂ FloatOps.addf (congrArg₂ FloatOps.addf (h_v743) (h_v748)) (congrArg₂ FloatOps.addf (h_v753) (h_v758))) (congrArg₂ FloatOps.addf (congrArg₂ FloatOps.addf (h_v763) (h_v768)) (congrArg₂ FloatOps.addf (h_v773) (h_v778))))) (congrArg₂ FloatOps.addf (congrArg₂ FloatOps.addf (congrArg₂ FloatOps.addf (congrArg₂ FloatOps.addf (h_v783) (h_v788)) (congrArg₂ FloatOps.addf (h_v793) (h_v798))) (congrArg₂ FloatOps.addf (congrArg₂ FloatOps.addf (h_v803) (h_v808)) (congrArg₂ FloatOps.addf (h_v813) (h_v818)))) (congrArg₂ FloatOps.addf (congrArg₂ FloatOps.addf (congrArg₂ FloatOps.addf (h_v823) (h_v828)) (congrArg₂ FloatOps.addf (h_v833) (h_v838))) (congrArg₂ FloatOps.addf (congrArg₂ FloatOps.addf (h_v843) (h_v848)) (congrArg₂ FloatOps.addf (h_v853) ((cast_16 v857 l).trans h_v857)))))

theorem k0_pay409_lane (v898 : Vec F S1x1x16 .f32) (l : Fin 16) :
    k0_pay409 v898 (ix1 l) = v898 (ix3 (0 : Fin 1) (0 : Fin 1) l) := by
  unfold k0_pay409
  exact cast_16 v898 l

theorem k0_pay410_lane (v903 : Vec F S1x1x16 .f32) (l : Fin 16) :
    k0_pay410 v903 (ix1 l) = v903 (ix3 (0 : Fin 1) (0 : Fin 1) l) := by
  unfold k0_pay410
  exact cast_16 v903 l

theorem k0_pay411_lane (v908 : Vec F S1x1x16 .f32) (l : Fin 16) :
    k0_pay411 v908 (ix1 l) = v908 (ix3 (0 : Fin 1) (0 : Fin 1) l) := by
  unfold k0_pay411
  exact cast_16 v908 l

theorem k0_pay412_lane (v913 : Vec F S1x1x16 .f32) (l : Fin 16) :
    k0_pay412 v913 (ix1 l) = v913 (ix3 (0 : Fin 1) (0 : Fin 1) l) := by
  unfold k0_pay412
  exact cast_16 v913 l

theorem k0_pay413_lane (v918 : Vec F S1x1x16 .f32) (l : Fin 16) :
    k0_pay413 v918 (ix1 l) = v918 (ix3 (0 : Fin 1) (0 : Fin 1) l) := by
  unfold k0_pay413
  exact cast_16 v918 l

theorem k0_pay414_lane (v923 : Vec F S1x1x16 .f32) (l : Fin 16) :
    k0_pay414 v923 (ix1 l) = v923 (ix3 (0 : Fin 1) (0 : Fin 1) l) := by
  unfold k0_pay414
  exact cast_16 v923 l

theorem k0_pay415_lane (v928 : Vec F S1x1x16 .f32) (l : Fin 16) :
    k0_pay415 v928 (ix1 l) = v928 (ix3 (0 : Fin 1) (0 : Fin 1) l) := by
  unfold k0_pay415
  exact cast_16 v928 l

theorem k0_pay416_lane (v933 : Vec F S1x1x16 .f32) (l : Fin 16) :
    k0_pay416 v933 (ix1 l) = v933 (ix3 (0 : Fin 1) (0 : Fin 1) l) := by
  unfold k0_pay416
  exact cast_16 v933 l

theorem k0_pay417_lane (v938 : Vec F S1x1x16 .f32) (l : Fin 16) :
    k0_pay417 v938 (ix1 l) = v938 (ix3 (0 : Fin 1) (0 : Fin 1) l) := by
  unfold k0_pay417
  exact cast_16 v938 l

theorem k0_pay418_lane (v943 : Vec F S1x1x16 .f32) (l : Fin 16) :
    k0_pay418 v943 (ix1 l) = v943 (ix3 (0 : Fin 1) (0 : Fin 1) l) := by
  unfold k0_pay418
  exact cast_16 v943 l

theorem k0_pay419_lane (v948 : Vec F S1x1x16 .f32) (l : Fin 16) :
    k0_pay419 v948 (ix1 l) = v948 (ix3 (0 : Fin 1) (0 : Fin 1) l) := by
  unfold k0_pay419
  exact cast_16 v948 l

theorem k0_pay420_lane (v953 : Vec F S1x1x16 .f32) (l : Fin 16) :
    k0_pay420 v953 (ix1 l) = v953 (ix3 (0 : Fin 1) (0 : Fin 1) l) := by
  unfold k0_pay420
  exact cast_16 v953 l

theorem k0_pay421_lane (v958 : Vec F S1x1x16 .f32) (l : Fin 16) :
    k0_pay421 v958 (ix1 l) = v958 (ix3 (0 : Fin 1) (0 : Fin 1) l) := by
  unfold k0_pay421
  exact cast_16 v958 l

theorem k0_pay422_lane (v963 : Vec F S1x1x16 .f32) (l : Fin 16) :
    k0_pay422 v963 (ix1 l) = v963 (ix3 (0 : Fin 1) (0 : Fin 1) l) := by
  unfold k0_pay422
  exact cast_16 v963 l

theorem k0_pay423_lane (v968 : Vec F S1x1x16 .f32) (l : Fin 16) :
    k0_pay423 v968 (ix1 l) = v968 (ix3 (0 : Fin 1) (0 : Fin 1) l) := by
  unfold k0_pay423
  exact cast_16 v968 l

theorem k0_pay424_lane (v973 : Vec F S1x1x16 .f32) (l : Fin 16) :
    k0_pay424 v973 (ix1 l) = v973 (ix3 (0 : Fin 1) (0 : Fin 1) l) := by
  unfold k0_pay424
  exact cast_16 v973 l

theorem k0_pay425_lane (v978 : Vec F S1x1x16 .f32) (l : Fin 16) :
    k0_pay425 v978 (ix1 l) = v978 (ix3 (0 : Fin 1) (0 : Fin 1) l) := by
  unfold k0_pay425
  exact cast_16 v978 l

theorem k0_pay426_lane (v983 : Vec F S1x1x16 .f32) (l : Fin 16) :
    k0_pay426 v983 (ix1 l) = v983 (ix3 (0 : Fin 1) (0 : Fin 1) l) := by
  unfold k0_pay426
  exact cast_16 v983 l

theorem k0_pay427_lane (v988 : Vec F S1x1x16 .f32) (l : Fin 16) :
    k0_pay427 v988 (ix1 l) = v988 (ix3 (0 : Fin 1) (0 : Fin 1) l) := by
  unfold k0_pay427
  exact cast_16 v988 l

theorem k0_pay428_lane (v993 : Vec F S1x1x16 .f32) (l : Fin 16) :
    k0_pay428 v993 (ix1 l) = v993 (ix3 (0 : Fin 1) (0 : Fin 1) l) := by
  unfold k0_pay428
  exact cast_16 v993 l

theorem k0_pay429_lane (v998 : Vec F S1x1x16 .f32) (l : Fin 16) :
    k0_pay429 v998 (ix1 l) = v998 (ix3 (0 : Fin 1) (0 : Fin 1) l) := by
  unfold k0_pay429
  exact cast_16 v998 l

theorem k0_pay430_lane (v1003 : Vec F S1x1x16 .f32) (l : Fin 16) :
    k0_pay430 v1003 (ix1 l) = v1003 (ix3 (0 : Fin 1) (0 : Fin 1) l) := by
  unfold k0_pay430
  exact cast_16 v1003 l

theorem k0_pay431_lane (v1008 : Vec F S1x1x16 .f32) (l : Fin 16) :
    k0_pay431 v1008 (ix1 l) = v1008 (ix3 (0 : Fin 1) (0 : Fin 1) l) := by
  unfold k0_pay431
  exact cast_16 v1008 l

theorem k0_pay432_lane (v1013 : Vec F S1x1x16 .f32) (l : Fin 16) :
    k0_pay432 v1013 (ix1 l) = v1013 (ix3 (0 : Fin 1) (0 : Fin 1) l) := by
  unfold k0_pay432
  exact cast_16 v1013 l

theorem k0_pay433_lane (v1018 : Vec F S1x1x16 .f32) (l : Fin 16) :
    k0_pay433 v1018 (ix1 l) = v1018 (ix3 (0 : Fin 1) (0 : Fin 1) l) := by
  unfold k0_pay433
  exact cast_16 v1018 l

theorem k0_pay434_lane (v1023 : Vec F S1x1x16 .f32) (l : Fin 16) :
    k0_pay434 v1023 (ix1 l) = v1023 (ix3 (0 : Fin 1) (0 : Fin 1) l) := by
  unfold k0_pay434
  exact cast_16 v1023 l

theorem k0_pay435_lane (v1028 : Vec F S1x1x16 .f32) (l : Fin 16) :
    k0_pay435 v1028 (ix1 l) = v1028 (ix3 (0 : Fin 1) (0 : Fin 1) l) := by
  unfold k0_pay435
  exact cast_16 v1028 l

theorem k0_pay436_lane (v1033 : Vec F S1x1x16 .f32) (l : Fin 16) :
    k0_pay436 v1033 (ix1 l) = v1033 (ix3 (0 : Fin 1) (0 : Fin 1) l) := by
  unfold k0_pay436
  exact cast_16 v1033 l

theorem k0_pay437_lane (v1038 : Vec F S1x1x16 .f32) (l : Fin 16) :
    k0_pay437 v1038 (ix1 l) = v1038 (ix3 (0 : Fin 1) (0 : Fin 1) l) := by
  unfold k0_pay437
  exact cast_16 v1038 l

theorem k0_pay438_lane (v1043 : Vec F S1x1x16 .f32) (l : Fin 16) :
    k0_pay438 v1043 (ix1 l) = v1043 (ix3 (0 : Fin 1) (0 : Fin 1) l) := by
  unfold k0_pay438
  exact cast_16 v1043 l

theorem k0_pay439_lane (v1048 : Vec F S1x1x16 .f32) (l : Fin 16) :
    k0_pay439 v1048 (ix1 l) = v1048 (ix3 (0 : Fin 1) (0 : Fin 1) l) := by
  unfold k0_pay439
  exact cast_16 v1048 l

theorem k0_pay440_lane (v1053 : Vec F S1x1x16 .f32) (l : Fin 16) :
    k0_pay440 v1053 (ix1 l) = v1053 (ix3 (0 : Fin 1) (0 : Fin 1) l) := by
  unfold k0_pay440
  exact cast_16 v1053 l

theorem k0_pay441_lane (v899 : FVec F S16 .f32) (v904 : FVec F S16 .f32) (l : Fin 16) :
    k0_pay441 v899 v904 (ix1 l) = FloatOps.addf (v899 (ix1 l)) (v904 (ix1 l)) := by
  unfold k0_pay441
  exact congrArg₂ FloatOps.addf (rfl) (rfl)

theorem k0_pay442_lane (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (l : Fin 16) :
    k0_pay442 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = FloatOps.addf (FloatOps.addf (FloatOps.addf (FloatOps.addf (v1055 (ix1 l)) (FloatOps.addf (v909 (ix1 l)) (v914 (ix1 l)))) (FloatOps.addf (FloatOps.addf (v919 (ix1 l)) (v924 (ix1 l))) (FloatOps.addf (v929 (ix1 l)) (v934 (ix1 l))))) (FloatOps.addf (FloatOps.addf (FloatOps.addf (v939 (ix1 l)) (v944 (ix1 l))) (FloatOps.addf (v949 (ix1 l)) (v954 (ix1 l)))) (FloatOps.addf (FloatOps.addf (v959 (ix1 l)) (v964 (ix1 l))) (FloatOps.addf (v969 (ix1 l)) (v974 (ix1 l)))))) (FloatOps.addf (FloatOps.addf (FloatOps.addf (FloatOps.addf (v979 (ix1 l)) (v984 (ix1 l))) (FloatOps.addf (v989 (ix1 l)) (v994 (ix1 l)))) (FloatOps.addf (FloatOps.addf (v999 (ix1 l)) (v1004 (ix1 l))) (FloatOps.addf (v1009 (ix1 l)) (v1014 (ix1 l))))) (FloatOps.addf (FloatOps.addf (FloatOps.addf (v1019 (ix1 l)) (v1024 (ix1 l))) (FloatOps.addf (v1029 (ix1 l)) (v1034 (ix1 l)))) (FloatOps.addf (FloatOps.addf (v1039 (ix1 l)) (v1044 (ix1 l))) (FloatOps.addf (v1049 (ix1 l)) (v1054 (ix1 l)))))) := by
  unfold k0_pay442
  refine (cast_116 _ l).trans ?_
  exact congrArg₂ FloatOps.addf (congrArg₂ FloatOps.addf (congrArg₂ FloatOps.addf (congrArg₂ FloatOps.addf (rfl) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k0_pay442_tree (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (w : Fin 32 → F .f32) (l : Fin 16)
    (h_v1055 : v1055 (ix1 l) = FloatOps.addf (w 0) (w 1))
    (h_v909 : v909 (ix1 l) = w 2)
    (h_v914 : v914 (ix1 l) = w 3)
    (h_v919 : v919 (ix1 l) = w 4)
    (h_v924 : v924 (ix1 l) = w 5)
    (h_v929 : v929 (ix1 l) = w 6)
    (h_v934 : v934 (ix1 l) = w 7)
    (h_v939 : v939 (ix1 l) = w 8)
    (h_v944 : v944 (ix1 l) = w 9)
    (h_v949 : v949 (ix1 l) = w 10)
    (h_v954 : v954 (ix1 l) = w 11)
    (h_v959 : v959 (ix1 l) = w 12)
    (h_v964 : v964 (ix1 l) = w 13)
    (h_v969 : v969 (ix1 l) = w 14)
    (h_v974 : v974 (ix1 l) = w 15)
    (h_v979 : v979 (ix1 l) = w 16)
    (h_v984 : v984 (ix1 l) = w 17)
    (h_v989 : v989 (ix1 l) = w 18)
    (h_v994 : v994 (ix1 l) = w 19)
    (h_v999 : v999 (ix1 l) = w 20)
    (h_v1004 : v1004 (ix1 l) = w 21)
    (h_v1009 : v1009 (ix1 l) = w 22)
    (h_v1014 : v1014 (ix1 l) = w 23)
    (h_v1019 : v1019 (ix1 l) = w 24)
    (h_v1024 : v1024 (ix1 l) = w 25)
    (h_v1029 : v1029 (ix1 l) = w 26)
    (h_v1034 : v1034 (ix1 l) = w 27)
    (h_v1039 : v1039 (ix1 l) = w 28)
    (h_v1044 : v1044 (ix1 l) = w 29)
    (h_v1049 : v1049 (ix1 l) = w 30)
    (h_v1054 : v1054 (ix1 l) = w 31) :
    k0_pay442 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = tree32 w := by
  unfold k0_pay442
  refine (cast_116 _ l).trans ?_
  exact congrArg₂ FloatOps.addf (congrArg₂ FloatOps.addf (congrArg₂ FloatOps.addf (congrArg₂ FloatOps.addf (h_v1055) (congrArg₂ FloatOps.addf (h_v909) (h_v914))) (congrArg₂ FloatOps.addf (congrArg₂ FloatOps.addf (h_v919) (h_v924)) (congrArg₂ FloatOps.addf (h_v929) (h_v934)))) (congrArg₂ FloatOps.addf (congrArg₂ FloatOps.addf (congrArg₂ FloatOps.addf (h_v939) (h_v944)) (congrArg₂ FloatOps.addf (h_v949) (h_v954))) (congrArg₂ FloatOps.addf (congrArg₂ FloatOps.addf (h_v959) (h_v964)) (congrArg₂ FloatOps.addf (h_v969) (h_v974))))) (congrArg₂ FloatOps.addf (congrArg₂ FloatOps.addf (congrArg₂ FloatOps.addf (congrArg₂ FloatOps.addf (h_v979) (h_v984)) (congrArg₂ FloatOps.addf (h_v989) (h_v994))) (congrArg₂ FloatOps.addf (congrArg₂ FloatOps.addf (h_v999) (h_v1004)) (congrArg₂ FloatOps.addf (h_v1009) (h_v1014)))) (congrArg₂ FloatOps.addf (congrArg₂ FloatOps.addf (congrArg₂ FloatOps.addf (h_v1019) (h_v1024)) (congrArg₂ FloatOps.addf (h_v1029) (h_v1034))) (congrArg₂ FloatOps.addf (congrArg₂ FloatOps.addf (h_v1039) (h_v1044)) (congrArg₂ FloatOps.addf (h_v1049) (h_v1054)))))

theorem k0_pay443_lane (v1094 : Vec F S1x1x16 .f32) (l : Fin 16) :
    k0_pay443 v1094 (ix1 l) = v1094 (ix3 (0 : Fin 1) (0 : Fin 1) l) := by
  unfold k0_pay443
  exact cast_16 v1094 l

theorem k0_pay444_lane (v1099 : Vec F S1x1x16 .f32) (l : Fin 16) :
    k0_pay444 v1099 (ix1 l) = v1099 (ix3 (0 : Fin 1) (0 : Fin 1) l) := by
  unfold k0_pay444
  exact cast_16 v1099 l

theorem k0_pay445_lane (v1104 : Vec F S1x1x16 .f32) (l : Fin 16) :
    k0_pay445 v1104 (ix1 l) = v1104 (ix3 (0 : Fin 1) (0 : Fin 1) l) := by
  unfold k0_pay445
  exact cast_16 v1104 l

theorem k0_pay446_lane (v1109 : Vec F S1x1x16 .f32) (l : Fin 16) :
    k0_pay446 v1109 (ix1 l) = v1109 (ix3 (0 : Fin 1) (0 : Fin 1) l) := by
  unfold k0_pay446
  exact cast_16 v1109 l

theorem k0_pay447_lane (v1114 : Vec F S1x1x16 .f32) (l : Fin 16) :
    k0_pay447 v1114 (ix1 l) = v1114 (ix3 (0 : Fin 1) (0 : Fin 1) l) := by
  unfold k0_pay447
  exact cast_16 v1114 l

theorem k0_pay448_lane (v1119 : Vec F S1x1x16 .f32) (l : Fin 16) :
    k0_pay448 v1119 (ix1 l) = v1119 (ix3 (0 : Fin 1) (0 : Fin 1) l) := by
  unfold k0_pay448
  exact cast_16 v1119 l

theorem k0_pay449_lane (v1124 : Vec F S1x1x16 .f32) (l : Fin 16) :
    k0_pay449 v1124 (ix1 l) = v1124 (ix3 (0 : Fin 1) (0 : Fin 1) l) := by
  unfold k0_pay449
  exact cast_16 v1124 l

theorem k0_pay450_lane (v1129 : Vec F S1x1x16 .f32) (l : Fin 16) :
    k0_pay450 v1129 (ix1 l) = v1129 (ix3 (0 : Fin 1) (0 : Fin 1) l) := by
  unfold k0_pay450
  exact cast_16 v1129 l

theorem k0_pay451_lane (v1134 : Vec F S1x1x16 .f32) (l : Fin 16) :
    k0_pay451 v1134 (ix1 l) = v1134 (ix3 (0 : Fin 1) (0 : Fin 1) l) := by
  unfold k0_pay451
  exact cast_16 v1134 l

theorem k0_pay452_lane (v1139 : Vec F S1x1x16 .f32) (l : Fin 16) :
    k0_pay452 v1139 (ix1 l) = v1139 (ix3 (0 : Fin 1) (0 : Fin 1) l) := by
  unfold k0_pay452
  exact cast_16 v1139 l

theorem k0_pay453_lane (v1144 : Vec F S1x1x16 .f32) (l : Fin 16) :
    k0_pay453 v1144 (ix1 l) = v1144 (ix3 (0 : Fin 1) (0 : Fin 1) l) := by
  unfold k0_pay453
  exact cast_16 v1144 l

theorem k0_pay454_lane (v1149 : Vec F S1x1x16 .f32) (l : Fin 16) :
    k0_pay454 v1149 (ix1 l) = v1149 (ix3 (0 : Fin 1) (0 : Fin 1) l) := by
  unfold k0_pay454
  exact cast_16 v1149 l

theorem k0_pay455_lane (v1154 : Vec F S1x1x16 .f32) (l : Fin 16) :
    k0_pay455 v1154 (ix1 l) = v1154 (ix3 (0 : Fin 1) (0 : Fin 1) l) := by
  unfold k0_pay455
  exact cast_16 v1154 l

theorem k0_pay456_lane (v1159 : Vec F S1x1x16 .f32) (l : Fin 16) :
    k0_pay456 v1159 (ix1 l) = v1159 (ix3 (0 : Fin 1) (0 : Fin 1) l) := by
  unfold k0_pay456
  exact cast_16 v1159 l

theorem k0_pay457_lane (v1164 : Vec F S1x1x16 .f32) (l : Fin 16) :
    k0_pay457 v1164 (ix1 l) = v1164 (ix3 (0 : Fin 1) (0 : Fin 1) l) := by
  unfold k0_pay457
  exact cast_16 v1164 l

theorem k0_pay458_lane (v1169 : Vec F S1x1x16 .f32) (l : Fin 16) :
    k0_pay458 v1169 (ix1 l) = v1169 (ix3 (0 : Fin 1) (0 : Fin 1) l) := by
  unfold k0_pay458
  exact cast_16 v1169 l

theorem k0_pay459_lane (v1174 : Vec F S1x1x16 .f32) (l : Fin 16) :
    k0_pay459 v1174 (ix1 l) = v1174 (ix3 (0 : Fin 1) (0 : Fin 1) l) := by
  unfold k0_pay459
  exact cast_16 v1174 l

theorem k0_pay460_lane (v1179 : Vec F S1x1x16 .f32) (l : Fin 16) :
    k0_pay460 v1179 (ix1 l) = v1179 (ix3 (0 : Fin 1) (0 : Fin 1) l) := by
  unfold k0_pay460
  exact cast_16 v1179 l

theorem k0_pay461_lane (v1184 : Vec F S1x1x16 .f32) (l : Fin 16) :
    k0_pay461 v1184 (ix1 l) = v1184 (ix3 (0 : Fin 1) (0 : Fin 1) l) := by
  unfold k0_pay461
  exact cast_16 v1184 l

theorem k0_pay462_lane (v1189 : Vec F S1x1x16 .f32) (l : Fin 16) :
    k0_pay462 v1189 (ix1 l) = v1189 (ix3 (0 : Fin 1) (0 : Fin 1) l) := by
  unfold k0_pay462
  exact cast_16 v1189 l

theorem k0_pay463_lane (v1194 : Vec F S1x1x16 .f32) (l : Fin 16) :
    k0_pay463 v1194 (ix1 l) = v1194 (ix3 (0 : Fin 1) (0 : Fin 1) l) := by
  unfold k0_pay463
  exact cast_16 v1194 l

theorem k0_pay464_lane (v1199 : Vec F S1x1x16 .f32) (l : Fin 16) :
    k0_pay464 v1199 (ix1 l) = v1199 (ix3 (0 : Fin 1) (0 : Fin 1) l) := by
  unfold k0_pay464
  exact cast_16 v1199 l

theorem k0_pay465_lane (v1204 : Vec F S1x1x16 .f32) (l : Fin 16) :
    k0_pay465 v1204 (ix1 l) = v1204 (ix3 (0 : Fin 1) (0 : Fin 1) l) := by
  unfold k0_pay465
  exact cast_16 v1204 l

theorem k0_pay466_lane (v1209 : Vec F S1x1x16 .f32) (l : Fin 16) :
    k0_pay466 v1209 (ix1 l) = v1209 (ix3 (0 : Fin 1) (0 : Fin 1) l) := by
  unfold k0_pay466
  exact cast_16 v1209 l

theorem k0_pay467_lane (v1214 : Vec F S1x1x16 .f32) (l : Fin 16) :
    k0_pay467 v1214 (ix1 l) = v1214 (ix3 (0 : Fin 1) (0 : Fin 1) l) := by
  unfold k0_pay467
  exact cast_16 v1214 l

theorem k0_pay468_lane (v1219 : Vec F S1x1x16 .f32) (l : Fin 16) :
    k0_pay468 v1219 (ix1 l) = v1219 (ix3 (0 : Fin 1) (0 : Fin 1) l) := by
  unfold k0_pay468
  exact cast_16 v1219 l

theorem k0_pay469_lane (v1224 : Vec F S1x1x16 .f32) (l : Fin 16) :
    k0_pay469 v1224 (ix1 l) = v1224 (ix3 (0 : Fin 1) (0 : Fin 1) l) := by
  unfold k0_pay469
  exact cast_16 v1224 l

theorem k0_pay470_lane (v1229 : Vec F S1x1x16 .f32) (l : Fin 16) :
    k0_pay470 v1229 (ix1 l) = v1229 (ix3 (0 : Fin 1) (0 : Fin 1) l) := by
  unfold k0_pay470
  exact cast_16 v1229 l

theorem k0_pay471_lane (v1234 : Vec F S1x1x16 .f32) (l : Fin 16) :
    k0_pay471 v1234 (ix1 l) = v1234 (ix3 (0 : Fin 1) (0 : Fin 1) l) := by
  unfold k0_pay471
  exact cast_16 v1234 l

theorem k0_pay472_lane (v1239 : Vec F S1x1x16 .f32) (l : Fin 16) :
    k0_pay472 v1239 (ix1 l) = v1239 (ix3 (0 : Fin 1) (0 : Fin 1) l) := by
  unfold k0_pay472
  exact cast_16 v1239 l

theorem k0_pay473_lane (v1244 : Vec F S1x1x16 .f32) (l : Fin 16) :
    k0_pay473 v1244 (ix1 l) = v1244 (ix3 (0 : Fin 1) (0 : Fin 1) l) := by
  unfold k0_pay473
  exact cast_16 v1244 l

theorem k0_pay474_lane (v1249 : Vec F S1x1x16 .f32) (l : Fin 16) :
    k0_pay474 v1249 (ix1 l) = v1249 (ix3 (0 : Fin 1) (0 : Fin 1) l) := by
  unfold k0_pay474
  exact cast_16 v1249 l

theorem k0_pay475_lane (v1095 : FVec F S16 .f32) (v1100 : FVec F S16 .f32) (l : Fin 16) :
    k0_pay475 v1095 v1100 (ix1 l) = FloatOps.addf (v1095 (ix1 l)) (v1100 (ix1 l)) := by
  unfold k0_pay475
  exact congrArg₂ FloatOps.addf (rfl) (rfl)

theorem k0_pay476_lane (v1105 : FVec F S16 .f32) (v1110 : FVec F S16 .f32) (l : Fin 16) :
    k0_pay476 v1105 v1110 (ix1 l) = FloatOps.addf (v1105 (ix1 l)) (v1110 (ix1 l)) := by
  unfold k0_pay476
  exact congrArg₂ FloatOps.addf (rfl) (rfl)

theorem k0_pay477_lane (v1115 : FVec F S16 .f32) (v1120 : FVec F S16 .f32) (l : Fin 16) :
    k0_pay477 v1115 v1120 (ix1 l) = FloatOps.addf (v1115 (ix1 l)) (v1120 (ix1 l)) := by
  unfold k0_pay477
  exact congrArg₂ FloatOps.addf (rfl) (rfl)

theorem k0_pay478_lane (v1125 : FVec F S16 .f32) (v1130 : FVec F S16 .f32) (l : Fin 16) :
    k0_pay478 v1125 v1130 (ix1 l) = FloatOps.addf (v1125 (ix1 l)) (v1130 (ix1 l)) := by
  unfold k0_pay478
  exact congrArg₂ FloatOps.addf (rfl) (rfl)

theorem k0_pay479_lane (v1135 : FVec F S16 .f32) (v1140 : FVec F S16 .f32) (l : Fin 16) :
    k0_pay479 v1135 v1140 (ix1 l) = FloatOps.addf (v1135 (ix1 l)) (v1140 (ix1 l)) := by
  unfold k0_pay479
  exact congrArg₂ FloatOps.addf (rfl) (rfl)

theorem k0_pay480_lane (v1145 : FVec F S16 .f32) (v1150 : FVec F S16 .f32) (l : Fin 16) :
    k0_pay480 v1145 v1150 (ix1 l) = FloatOps.addf (v1145 (ix1 l)) (v1150 (ix1 l)) := by
  unfold k0_pay480
  exact congrArg₂ FloatOps.addf (rfl) (rfl)

theorem k0_pay481_lane (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (l : Fin 16) :
    k0_pay481 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = FloatOps.addf (FloatOps.addf (FloatOps.addf (FloatOps.addf (v1251 (ix1 l)) (v1252 (ix1 l))) (FloatOps.addf (v1253 (ix1 l)) (v1254 (ix1 l)))) (FloatOps.addf (FloatOps.addf (v1255 (ix1 l)) (v1256 (ix1 l))) (FloatOps.addf (FloatOps.addf (v1155 (ix1 l)) (v1160 (ix1 l))) (FloatOps.addf (v1165 (ix1 l)) (v1170 (ix1 l)))))) (FloatOps.addf (FloatOps.addf (FloatOps.addf (FloatOps.addf (v1175 (ix1 l)) (v1180 (ix1 l))) (FloatOps.addf (v1185 (ix1 l)) (v1190 (ix1 l)))) (FloatOps.addf (FloatOps.addf (v1195 (ix1 l)) (v1200 (ix1 l))) (FloatOps.addf (v1205 (ix1 l)) (v1210 (ix1 l))))) (FloatOps.addf (FloatOps.addf (FloatOps.addf (v1215 (ix1 l)) (v1220 (ix1 l))) (FloatOps.addf (v1225 (ix1 l)) (v1230 (ix1 l)))) (FloatOps.addf (FloatOps.addf (v1235 (ix1 l)) (v1240 (ix1 l))) (FloatOps.addf (v1245 (ix1 l)) (v1250 (ix1 l)))))) := by
  unfold k0_pay481
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k0_pay481_tree (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (w : Fin 32 → F .f32) (l : Fin 16)
    (h_v1251 : v1251 (ix1 l) = FloatOps.addf (w 0) (w 1))
    (h_v1252 : v1252 (ix1 l) = FloatOps.addf (w 2) (w 3))
    (h_v1253 : v1253 (ix1 l) = FloatOps.addf (w 4) (w 5))
    (h_v1254 : v1254 (ix1 l) = FloatOps.addf (w 6) (w 7))
    (h_v1255 : v1255 (ix1 l) = FloatOps.addf (w 8) (w 9))
    (h_v1256 : v1256 (ix1 l) = FloatOps.addf (w 10) (w 11))
    (h_v1155 : v1155 (ix1 l) = w 12)
    (h_v1160 : v1160 (ix1 l) = w 13)
    (h_v1165 : v1165 (ix1 l) = w 14)
    (h_v1170 : v1170 (ix1 l) = w 15)
    (h_v1175 : v1175 (ix1 l) = w 16)
    (h_v1180 : v1180 (ix1 l) = w 17)
    (h_v1185 : v1185 (ix1 l) = w 18)
    (h_v1190 : v1190 (ix1 l) = w 19)
    (h_v1195 : v1195 (ix1 l) = w 20)
    (h_v1200 : v1200 (ix1 l) = w 21)
    (h_v1205 : v1205 (ix1 l) = w 22)
    (h_v1210 : v1210 (ix1 l) = w 23)
    (h_v1215 : v1215 (ix1 l) = w 24)
    (h_v1220 : v1220 (ix1 l) = w 25)
    (h_v1225 : v1225 (ix1 l) = w 26)
    (h_v1230 : v1230 (ix1 l) = w 27)
    (h_v1235 : v1235 (ix1 l) = w 28)
    (h_v1240 : v1240 (ix1 l) = w 29)
    (h_v1245 : v1245 (ix1 l) = w 30)
    (h_v1250 : v1250 (ix1 l) = w 31) :
    k0_pay481 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = tree32 w := by
  unfold k0_pay481
  refine (cast_116 _ l).trans ?_
  exact congrArg₂ FloatOps.addf (congrArg₂ FloatOps.addf (congrArg₂ FloatOps.addf (congrArg₂ FloatOps.addf (h_v1251) (h_v1252)) (congrArg₂ FloatOps.addf (h_v1253) (h_v1254))) (congrArg₂ FloatOps.addf (congrArg₂ FloatOps.addf (h_v1255) (h_v1256)) (congrArg₂ FloatOps.addf (congrArg₂ FloatOps.addf (h_v1155) (h_v1160)) (congrArg₂ FloatOps.addf (h_v1165) (h_v1170))))) (congrArg₂ FloatOps.addf (congrArg₂ FloatOps.addf (congrArg₂ FloatOps.addf (congrArg₂ FloatOps.addf (h_v1175) (h_v1180)) (congrArg₂ FloatOps.addf (h_v1185) (h_v1190))) (congrArg₂ FloatOps.addf (congrArg₂ FloatOps.addf (h_v1195) (h_v1200)) (congrArg₂ FloatOps.addf (h_v1205) (h_v1210)))) (congrArg₂ FloatOps.addf (congrArg₂ FloatOps.addf (congrArg₂ FloatOps.addf (h_v1215) (h_v1220)) (congrArg₂ FloatOps.addf (h_v1225) (h_v1230))) (congrArg₂ FloatOps.addf (congrArg₂ FloatOps.addf (h_v1235) (h_v1240)) (congrArg₂ FloatOps.addf (h_v1245) (h_v1250)))))

theorem k0_pay482_lane (v1290 : Vec F S1x1x16 .f32) (l : Fin 16) :
    k0_pay482 v1290 (ix1 l) = v1290 (ix3 (0 : Fin 1) (0 : Fin 1) l) := by
  unfold k0_pay482
  exact cast_16 v1290 l

theorem k0_pay483_lane (v1295 : Vec F S1x1x16 .f32) (l : Fin 16) :
    k0_pay483 v1295 (ix1 l) = v1295 (ix3 (0 : Fin 1) (0 : Fin 1) l) := by
  unfold k0_pay483
  exact cast_16 v1295 l

theorem k0_pay484_lane (v1300 : Vec F S1x1x16 .f32) (l : Fin 16) :
    k0_pay484 v1300 (ix1 l) = v1300 (ix3 (0 : Fin 1) (0 : Fin 1) l) := by
  unfold k0_pay484
  exact cast_16 v1300 l

theorem k0_pay485_lane (v1305 : Vec F S1x1x16 .f32) (l : Fin 16) :
    k0_pay485 v1305 (ix1 l) = v1305 (ix3 (0 : Fin 1) (0 : Fin 1) l) := by
  unfold k0_pay485
  exact cast_16 v1305 l

theorem k0_pay486_lane (v1310 : Vec F S1x1x16 .f32) (l : Fin 16) :
    k0_pay486 v1310 (ix1 l) = v1310 (ix3 (0 : Fin 1) (0 : Fin 1) l) := by
  unfold k0_pay486
  exact cast_16 v1310 l

theorem k0_pay487_lane (v1315 : Vec F S1x1x16 .f32) (l : Fin 16) :
    k0_pay487 v1315 (ix1 l) = v1315 (ix3 (0 : Fin 1) (0 : Fin 1) l) := by
  unfold k0_pay487
  exact cast_16 v1315 l

theorem k0_pay488_lane (v1320 : Vec F S1x1x16 .f32) (l : Fin 16) :
    k0_pay488 v1320 (ix1 l) = v1320 (ix3 (0 : Fin 1) (0 : Fin 1) l) := by
  unfold k0_pay488
  exact cast_16 v1320 l

theorem k0_pay489_lane (v1325 : Vec F S1x1x16 .f32) (l : Fin 16) :
    k0_pay489 v1325 (ix1 l) = v1325 (ix3 (0 : Fin 1) (0 : Fin 1) l) := by
  unfold k0_pay489
  exact cast_16 v1325 l

theorem k0_pay490_lane (v1330 : Vec F S1x1x16 .f32) (l : Fin 16) :
    k0_pay490 v1330 (ix1 l) = v1330 (ix3 (0 : Fin 1) (0 : Fin 1) l) := by
  unfold k0_pay490
  exact cast_16 v1330 l

theorem k0_pay491_lane (v1335 : Vec F S1x1x16 .f32) (l : Fin 16) :
    k0_pay491 v1335 (ix1 l) = v1335 (ix3 (0 : Fin 1) (0 : Fin 1) l) := by
  unfold k0_pay491
  exact cast_16 v1335 l

theorem k0_pay492_lane (v1340 : Vec F S1x1x16 .f32) (l : Fin 16) :
    k0_pay492 v1340 (ix1 l) = v1340 (ix3 (0 : Fin 1) (0 : Fin 1) l) := by
  unfold k0_pay492
  exact cast_16 v1340 l

theorem k0_pay493_lane (v1345 : Vec F S1x1x16 .f32) (l : Fin 16) :
    k0_pay493 v1345 (ix1 l) = v1345 (ix3 (0 : Fin 1) (0 : Fin 1) l) := by
  unfold k0_pay493
  exact cast_16 v1345 l

theorem k0_pay494_lane (v1350 : Vec F S1x1x16 .f32) (l : Fin 16) :
    k0_pay494 v1350 (ix1 l) = v1350 (ix3 (0 : Fin 1) (0 : Fin 1) l) := by
  unfold k0_pay494
  exact cast_16 v1350 l

theorem k0_pay495_lane (v1355 : Vec F S1x1x16 .f32) (l : Fin 16) :
    k0_pay495 v1355 (ix1 l) = v1355 (ix3 (0 : Fin 1) (0 : Fin 1) l) := by
  unfold k0_pay495
  exact cast_16 v1355 l

theorem k0_pay496_lane (v1360 : Vec F S1x1x16 .f32) (l : Fin 16) :
    k0_pay496 v1360 (ix1 l) = v1360 (ix3 (0 : Fin 1) (0 : Fin 1) l) := by
  unfold k0_pay496
  exact cast_16 v1360 l

theorem k0_pay497_lane (v1365 : Vec F S1x1x16 .f32) (l : Fin 16) :
    k0_pay497 v1365 (ix1 l) = v1365 (ix3 (0 : Fin 1) (0 : Fin 1) l) := by
  unfold k0_pay497
  exact cast_16 v1365 l

theorem k0_pay498_lane (v1370 : Vec F S1x1x16 .f32) (l : Fin 16) :
    k0_pay498 v1370 (ix1 l) = v1370 (ix3 (0 : Fin 1) (0 : Fin 1) l) := by
  unfold k0_pay498
  exact cast_16 v1370 l

theorem k0_pay499_lane (v1375 : Vec F S1x1x16 .f32) (l : Fin 16) :
    k0_pay499 v1375 (ix1 l) = v1375 (ix3 (0 : Fin 1) (0 : Fin 1) l) := by
  unfold k0_pay499
  exact cast_16 v1375 l

theorem k0_pay500_lane (v1380 : Vec F S1x1x16 .f32) (l : Fin 16) :
    k0_pay500 v1380 (ix1 l) = v1380 (ix3 (0 : Fin 1) (0 : Fin 1) l) := by
  unfold k0_pay500
  exact cast_16 v1380 l

theorem k0_pay501_lane (v1385 : Vec F S1x1x16 .f32) (l : Fin 16) :
    k0_pay501 v1385 (ix1 l) = v1385 (ix3 (0 : Fin 1) (0 : Fin 1) l) := by
  unfold k0_pay501
  exact cast_16 v1385 l

theorem k0_pay502_lane (v1390 : Vec F S1x1x16 .f32) (l : Fin 16) :
    k0_pay502 v1390 (ix1 l) = v1390 (ix3 (0 : Fin 1) (0 : Fin 1) l) := by
  unfold k0_pay502
  exact cast_16 v1390 l

theorem k0_pay503_lane (v1395 : Vec F S1x1x16 .f32) (l : Fin 16) :
    k0_pay503 v1395 (ix1 l) = v1395 (ix3 (0 : Fin 1) (0 : Fin 1) l) := by
  unfold k0_pay503
  exact cast_16 v1395 l

theorem k0_pay504_lane (v1400 : Vec F S1x1x16 .f32) (l : Fin 16) :
    k0_pay504 v1400 (ix1 l) = v1400 (ix3 (0 : Fin 1) (0 : Fin 1) l) := by
  unfold k0_pay504
  exact cast_16 v1400 l

theorem k0_pay505_lane (v1405 : Vec F S1x1x16 .f32) (l : Fin 16) :
    k0_pay505 v1405 (ix1 l) = v1405 (ix3 (0 : Fin 1) (0 : Fin 1) l) := by
  unfold k0_pay505
  exact cast_16 v1405 l

theorem k0_pay506_lane (v1410 : Vec F S1x1x16 .f32) (l : Fin 16) :
    k0_pay506 v1410 (ix1 l) = v1410 (ix3 (0 : Fin 1) (0 : Fin 1) l) := by
  unfold k0_pay506
  exact cast_16 v1410 l

theorem k0_pay507_lane (v1415 : Vec F S1x1x16 .f32) (l : Fin 16) :
    k0_pay507 v1415 (ix1 l) = v1415 (ix3 (0 : Fin 1) (0 : Fin 1) l) := by
  unfold k0_pay507
  exact cast_16 v1415 l

theorem k0_pay508_lane (v1420 : Vec F S1x1x16 .f32) (l : Fin 16) :
    k0_pay508 v1420 (ix1 l) = v1420 (ix3 (0 : Fin 1) (0 : Fin 1) l) := by
  unfold k0_pay508
  exact cast_16 v1420 l

theorem k0_pay509_lane (v1425 : Vec F S1x1x16 .f32) (l : Fin 16) :
    k0_pay509 v1425 (ix1 l) = v1425 (ix3 (0 : Fin 1) (0 : Fin 1) l) := by
  unfold k0_pay509
  exact cast_16 v1425 l

theorem k0_pay510_lane (v1430 : Vec F S1x1x16 .f32) (l : Fin 16) :
    k0_pay510 v1430 (ix1 l) = v1430 (ix3 (0 : Fin 1) (0 : Fin 1) l) := by
  unfold k0_pay510
  exact cast_16 v1430 l

theorem k0_pay511_lane (v1435 : Vec F S1x1x16 .f32) (l : Fin 16) :
    k0_pay511 v1435 (ix1 l) = v1435 (ix3 (0 : Fin 1) (0 : Fin 1) l) := by
  unfold k0_pay511
  exact cast_16 v1435 l

theorem k0_pay512_lane (v1440 : Vec F S1x1x16 .f32) (l : Fin 16) :
    k0_pay512 v1440 (ix1 l) = v1440 (ix3 (0 : Fin 1) (0 : Fin 1) l) := by
  unfold k0_pay512
  exact cast_16 v1440 l

theorem k0_pay513_lane (v1445 : Vec F S1x1x16 .f32) (l : Fin 16) :
    k0_pay513 v1445 (ix1 l) = v1445 (ix3 (0 : Fin 1) (0 : Fin 1) l) := by
  unfold k0_pay513
  exact cast_16 v1445 l

theorem k0_pay514_lane (v1291 : FVec F S16 .f32) (v1296 : FVec F S16 .f32) (l : Fin 16) :
    k0_pay514 v1291 v1296 (ix1 l) = FloatOps.addf (v1291 (ix1 l)) (v1296 (ix1 l)) := by
  unfold k0_pay514
  exact congrArg₂ FloatOps.addf (rfl) (rfl)

theorem k0_pay515_lane (v1301 : FVec F S16 .f32) (v1306 : FVec F S16 .f32) (l : Fin 16) :
    k0_pay515 v1301 v1306 (ix1 l) = FloatOps.addf (v1301 (ix1 l)) (v1306 (ix1 l)) := by
  unfold k0_pay515
  exact congrArg₂ FloatOps.addf (rfl) (rfl)

theorem k0_pay516_lane (v1311 : FVec F S16 .f32) (v1316 : FVec F S16 .f32) (l : Fin 16) :
    k0_pay516 v1311 v1316 (ix1 l) = FloatOps.addf (v1311 (ix1 l)) (v1316 (ix1 l)) := by
  unfold k0_pay516
  exact congrArg₂ FloatOps.addf (rfl) (rfl)

theorem k0_pay517_lane (v1321 : FVec F S16 .f32) (v1326 : FVec F S16 .f32) (l : Fin 16) :
    k0_pay517 v1321 v1326 (ix1 l) = FloatOps.addf (v1321 (ix1 l)) (v1326 (ix1 l)) := by
  unfold k0_pay517
  exact congrArg₂ FloatOps.addf (rfl) (rfl)

theorem k0_pay518_lane (v1331 : FVec F S16 .f32) (v1336 : FVec F S16 .f32) (l : Fin 16) :
    k0_pay518 v1331 v1336 (ix1 l) = FloatOps.addf (v1331 (ix1 l)) (v1336 (ix1 l)) := by
  unfold k0_pay518
  exact congrArg₂ FloatOps.addf (rfl) (rfl)

theorem k0_pay519_lane (v1341 : FVec F S16 .f32) (v1346 : FVec F S16 .f32) (l : Fin 16) :
    k0_pay519 v1341 v1346 (ix1 l) = FloatOps.addf (v1341 (ix1 l)) (v1346 (ix1 l)) := by
  unfold k0_pay519
  exact congrArg₂ FloatOps.addf (rfl) (rfl)

theorem k0_pay520_lane (v1351 : FVec F S16 .f32) (v1356 : FVec F S16 .f32) (l : Fin 16) :
    k0_pay520 v1351 v1356 (ix1 l) = FloatOps.addf (v1351 (ix1 l)) (v1356 (ix1 l)) := by
  unfold k0_pay520
  exact congrArg₂ FloatOps.addf (rfl) (rfl)

theorem k0_pay521_lane (v1361 : FVec F S16 .f32) (v1366 : FVec F S16 .f32) (l : Fin 16) :
    k0_pay521 v1361 v1366 (ix1 l) = FloatOps.addf (v1361 (ix1 l)) (v1366 (ix1 l)) := by
  unfold k0_pay521
  exact congrArg₂ FloatOps.addf (rfl) (rfl)

theorem k0_pay522_lane (v1371 : FVec F S16 .f32) (v1376 : FVec F S16 .f32) (l : Fin 16) :
    k0_pay522 v1371 v1376 (ix1 l) = FloatOps.addf (v1371 (ix1 l)) (v1376 (ix1 l)) := by
  unfold k0_pay522
  exact congrArg₂ FloatOps.addf (rfl) (rfl)

theorem k0_pay523_lane (v1381 : FVec F S16 .f32) (v1386 : FVec F S16 .f32) (l : Fin 16) :
    k0_pay523 v1381 v1386 (ix1 l) = FloatOps.addf (v1381 (ix1 l)) (v1386 (ix1 l)) := by
  unfold k0_pay523
  exact congrArg₂ FloatOps.addf (rfl) (rfl)

theorem k0_pay524_lane (v1391 : FVec F S16 .f32) (v1396 : FVec F S16 .f32) (l : Fin 16) :
    k0_pay524 v1391 v1396 (ix1 l) = FloatOps.addf (v1391 (ix1 l)) (v1396 (ix1 l)) := by
  unfold k0_pay524
  exact congrArg₂ FloatOps.addf (rfl) (rfl)

theorem k0_pay525_lane (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (l : Fin 16) :
    k0_pay525 v1401 v1406 v1411 v1416 v1421 v1426 v1431 v1436 v1441 v1446 v1447 v1448 v1449 v1450 v1451 v1452 v1453 v1454 v1455 v1456 v1457 (ix3 (0 : Fin 1) (0 : Fin 1) l) = FloatOps.addf (FloatOps.addf (FloatOps.addf (FloatOps.addf (v1447 (ix1 l)) (v1448 (ix1 l))) (FloatOps.addf (v1449 (ix1 l)) (v1450 (ix1 l)))) (FloatOps.addf (FloatOps.addf (v1451 (ix1 l)) (v1452 (ix1 l))) (FloatOps.addf (v1453 (ix1 l)) (v1454 (ix1 l))))) (FloatOps.addf (FloatOps.addf (FloatOps.addf (v1455 (ix1 l)) (v1456 (ix1 l))) (FloatOps.addf (v1457 (ix1 l)) (FloatOps.addf (v1401 (ix1 l)) (v1406 (ix1 l))))) (FloatOps.addf (FloatOps.addf (FloatOps.addf (v1411 (ix1 l)) (v1416 (ix1 l))) (FloatOps.addf (v1421 (ix1 l)) (v1426 (ix1 l)))) (FloatOps.addf (FloatOps.addf (v1431 (ix1 l)) (v1436 (ix1 l))) (FloatOps.addf (v1441 (ix1 l)) (v1446 (ix1 l)))))) := by
  unfold k0_pay525
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k0_pay525_tree (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (w : Fin 32 → F .f32) (l : Fin 16)
    (h_v1447 : v1447 (ix1 l) = FloatOps.addf (w 0) (w 1))
    (h_v1448 : v1448 (ix1 l) = FloatOps.addf (w 2) (w 3))
    (h_v1449 : v1449 (ix1 l) = FloatOps.addf (w 4) (w 5))
    (h_v1450 : v1450 (ix1 l) = FloatOps.addf (w 6) (w 7))
    (h_v1451 : v1451 (ix1 l) = FloatOps.addf (w 8) (w 9))
    (h_v1452 : v1452 (ix1 l) = FloatOps.addf (w 10) (w 11))
    (h_v1453 : v1453 (ix1 l) = FloatOps.addf (w 12) (w 13))
    (h_v1454 : v1454 (ix1 l) = FloatOps.addf (w 14) (w 15))
    (h_v1455 : v1455 (ix1 l) = FloatOps.addf (w 16) (w 17))
    (h_v1456 : v1456 (ix1 l) = FloatOps.addf (w 18) (w 19))
    (h_v1457 : v1457 (ix1 l) = FloatOps.addf (w 20) (w 21))
    (h_v1401 : v1401 (ix1 l) = w 22)
    (h_v1406 : v1406 (ix1 l) = w 23)
    (h_v1411 : v1411 (ix1 l) = w 24)
    (h_v1416 : v1416 (ix1 l) = w 25)
    (h_v1421 : v1421 (ix1 l) = w 26)
    (h_v1426 : v1426 (ix1 l) = w 27)
    (h_v1431 : v1431 (ix1 l) = w 28)
    (h_v1436 : v1436 (ix1 l) = w 29)
    (h_v1441 : v1441 (ix1 l) = w 30)
    (h_v1446 : v1446 (ix1 l) = w 31) :
    k0_pay525 v1401 v1406 v1411 v1416 v1421 v1426 v1431 v1436 v1441 v1446 v1447 v1448 v1449 v1450 v1451 v1452 v1453 v1454 v1455 v1456 v1457 (ix3 (0 : Fin 1) (0 : Fin 1) l) = tree32 w := by
  unfold k0_pay525
  refine (cast_116 _ l).trans ?_
  exact congrArg₂ FloatOps.addf (congrArg₂ FloatOps.addf (congrArg₂ FloatOps.addf (congrArg₂ FloatOps.addf (h_v1447) (h_v1448)) (congrArg₂ FloatOps.addf (h_v1449) (h_v1450))) (congrArg₂ FloatOps.addf (congrArg₂ FloatOps.addf (h_v1451) (h_v1452)) (congrArg₂ FloatOps.addf (h_v1453) (h_v1454)))) (congrArg₂ FloatOps.addf (congrArg₂ FloatOps.addf (congrArg₂ FloatOps.addf (h_v1455) (h_v1456)) (congrArg₂ FloatOps.addf (h_v1457) (congrArg₂ FloatOps.addf (h_v1401) (h_v1406)))) (congrArg₂ FloatOps.addf (congrArg₂ FloatOps.addf (congrArg₂ FloatOps.addf (h_v1411) (h_v1416)) (congrArg₂ FloatOps.addf (h_v1421) (h_v1426))) (congrArg₂ FloatOps.addf (congrArg₂ FloatOps.addf (h_v1431) (h_v1436)) (congrArg₂ FloatOps.addf (h_v1441) (h_v1446)))))

theorem k0_pay526_lane (v1486 : Vec F S1x1x16 .f32) (l : Fin 16) :
    k0_pay526 v1486 (ix1 l) = v1486 (ix3 (0 : Fin 1) (0 : Fin 1) l) := by
  unfold k0_pay526
  exact cast_16 v1486 l

theorem k0_pay527_lane (v1491 : Vec F S1x1x16 .f32) (l : Fin 16) :
    k0_pay527 v1491 (ix1 l) = v1491 (ix3 (0 : Fin 1) (0 : Fin 1) l) := by
  unfold k0_pay527
  exact cast_16 v1491 l

theorem k0_pay528_lane (v1496 : Vec F S1x1x16 .f32) (l : Fin 16) :
    k0_pay528 v1496 (ix1 l) = v1496 (ix3 (0 : Fin 1) (0 : Fin 1) l) := by
  unfold k0_pay528
  exact cast_16 v1496 l

theorem k0_pay529_lane (v1501 : Vec F S1x1x16 .f32) (l : Fin 16) :
    k0_pay529 v1501 (ix1 l) = v1501 (ix3 (0 : Fin 1) (0 : Fin 1) l) := by
  unfold k0_pay529
  exact cast_16 v1501 l

theorem k0_pay530_lane (v1506 : Vec F S1x1x16 .f32) (l : Fin 16) :
    k0_pay530 v1506 (ix1 l) = v1506 (ix3 (0 : Fin 1) (0 : Fin 1) l) := by
  unfold k0_pay530
  exact cast_16 v1506 l

theorem k0_pay531_lane (v1511 : Vec F S1x1x16 .f32) (l : Fin 16) :
    k0_pay531 v1511 (ix1 l) = v1511 (ix3 (0 : Fin 1) (0 : Fin 1) l) := by
  unfold k0_pay531
  exact cast_16 v1511 l

theorem k0_pay532_lane (v1516 : Vec F S1x1x16 .f32) (l : Fin 16) :
    k0_pay532 v1516 (ix1 l) = v1516 (ix3 (0 : Fin 1) (0 : Fin 1) l) := by
  unfold k0_pay532
  exact cast_16 v1516 l

theorem k0_pay533_lane (v1521 : Vec F S1x1x16 .f32) (l : Fin 16) :
    k0_pay533 v1521 (ix1 l) = v1521 (ix3 (0 : Fin 1) (0 : Fin 1) l) := by
  unfold k0_pay533
  exact cast_16 v1521 l

theorem k0_pay534_lane (v1526 : Vec F S1x1x16 .f32) (l : Fin 16) :
    k0_pay534 v1526 (ix1 l) = v1526 (ix3 (0 : Fin 1) (0 : Fin 1) l) := by
  unfold k0_pay534
  exact cast_16 v1526 l

theorem k0_pay535_lane (v1531 : Vec F S1x1x16 .f32) (l : Fin 16) :
    k0_pay535 v1531 (ix1 l) = v1531 (ix3 (0 : Fin 1) (0 : Fin 1) l) := by
  unfold k0_pay535
  exact cast_16 v1531 l

theorem k0_pay536_lane (v1536 : Vec F S1x1x16 .f32) (l : Fin 16) :
    k0_pay536 v1536 (ix1 l) = v1536 (ix3 (0 : Fin 1) (0 : Fin 1) l) := by
  unfold k0_pay536
  exact cast_16 v1536 l

theorem k0_pay537_lane (v1541 : Vec F S1x1x16 .f32) (l : Fin 16) :
    k0_pay537 v1541 (ix1 l) = v1541 (ix3 (0 : Fin 1) (0 : Fin 1) l) := by
  unfold k0_pay537
  exact cast_16 v1541 l

theorem k0_pay538_lane (v1546 : Vec F S1x1x16 .f32) (l : Fin 16) :
    k0_pay538 v1546 (ix1 l) = v1546 (ix3 (0 : Fin 1) (0 : Fin 1) l) := by
  unfold k0_pay538
  exact cast_16 v1546 l

theorem k0_pay539_lane (v1551 : Vec F S1x1x16 .f32) (l : Fin 16) :
    k0_pay539 v1551 (ix1 l) = v1551 (ix3 (0 : Fin 1) (0 : Fin 1) l) := by
  unfold k0_pay539
  exact cast_16 v1551 l

theorem k0_pay540_lane (v1556 : Vec F S1x1x16 .f32) (l : Fin 16) :
    k0_pay540 v1556 (ix1 l) = v1556 (ix3 (0 : Fin 1) (0 : Fin 1) l) := by
  unfold k0_pay540
  exact cast_16 v1556 l

theorem k0_pay541_lane (v1561 : Vec F S1x1x16 .f32) (l : Fin 16) :
    k0_pay541 v1561 (ix1 l) = v1561 (ix3 (0 : Fin 1) (0 : Fin 1) l) := by
  unfold k0_pay541
  exact cast_16 v1561 l

theorem k0_pay542_lane (v1566 : Vec F S1x1x16 .f32) (l : Fin 16) :
    k0_pay542 v1566 (ix1 l) = v1566 (ix3 (0 : Fin 1) (0 : Fin 1) l) := by
  unfold k0_pay542
  exact cast_16 v1566 l

theorem k0_pay543_lane (v1571 : Vec F S1x1x16 .f32) (l : Fin 16) :
    k0_pay543 v1571 (ix1 l) = v1571 (ix3 (0 : Fin 1) (0 : Fin 1) l) := by
  unfold k0_pay543
  exact cast_16 v1571 l

theorem k0_pay544_lane (v1576 : Vec F S1x1x16 .f32) (l : Fin 16) :
    k0_pay544 v1576 (ix1 l) = v1576 (ix3 (0 : Fin 1) (0 : Fin 1) l) := by
  unfold k0_pay544
  exact cast_16 v1576 l

theorem k0_pay545_lane (v1581 : Vec F S1x1x16 .f32) (l : Fin 16) :
    k0_pay545 v1581 (ix1 l) = v1581 (ix3 (0 : Fin 1) (0 : Fin 1) l) := by
  unfold k0_pay545
  exact cast_16 v1581 l

theorem k0_pay546_lane (v1586 : Vec F S1x1x16 .f32) (l : Fin 16) :
    k0_pay546 v1586 (ix1 l) = v1586 (ix3 (0 : Fin 1) (0 : Fin 1) l) := by
  unfold k0_pay546
  exact cast_16 v1586 l

theorem k0_pay547_lane (v1591 : Vec F S1x1x16 .f32) (l : Fin 16) :
    k0_pay547 v1591 (ix1 l) = v1591 (ix3 (0 : Fin 1) (0 : Fin 1) l) := by
  unfold k0_pay547
  exact cast_16 v1591 l

theorem k0_pay548_lane (v1596 : Vec F S1x1x16 .f32) (l : Fin 16) :
    k0_pay548 v1596 (ix1 l) = v1596 (ix3 (0 : Fin 1) (0 : Fin 1) l) := by
  unfold k0_pay548
  exact cast_16 v1596 l

theorem k0_pay549_lane (v1601 : Vec F S1x1x16 .f32) (l : Fin 16) :
    k0_pay549 v1601 (ix1 l) = v1601 (ix3 (0 : Fin 1) (0 : Fin 1) l) := by
  unfold k0_pay549
  exact cast_16 v1601 l

theorem k0_pay550_lane (v1606 : Vec F S1x1x16 .f32) (l : Fin 16) :
    k0_pay550 v1606 (ix1 l) = v1606 (ix3 (0 : Fin 1) (0 : Fin 1) l) := by
  unfold k0_pay550
  exact cast_16 v1606 l

theorem k0_pay551_lane (v1611 : Vec F S1x1x16 .f32) (l : Fin 16) :
    k0_pay551 v1611 (ix1 l) = v1611 (ix3 (0 : Fin 1) (0 : Fin 1) l) := by
  unfold k0_pay551
  exact cast_16 v1611 l

theorem k0_pay552_lane (v1487 : FVec F S16 .f32) (v1492 : FVec F S16 .f32) (l : Fin 16) :
    k0_pay552 v1487 v1492 (ix1 l) = FloatOps.addf (v1487 (ix1 l)) (v1492 (ix1 l)) := by
  unfold k0_pay552
  exact congrArg₂ FloatOps.addf (rfl) (rfl)

theorem k0_pay553_lane (v1497 : FVec F S16 .f32) (v1502 : FVec F S16 .f32) (l : Fin 16) :
    k0_pay553 v1497 v1502 (ix1 l) = FloatOps.addf (v1497 (ix1 l)) (v1502 (ix1 l)) := by
  unfold k0_pay553
  exact congrArg₂ FloatOps.addf (rfl) (rfl)

theorem k0_pay554_lane (v1507 : FVec F S16 .f32) (v1512 : FVec F S16 .f32) (l : Fin 16) :
    k0_pay554 v1507 v1512 (ix1 l) = FloatOps.addf (v1507 (ix1 l)) (v1512 (ix1 l)) := by
  unfold k0_pay554
  exact congrArg₂ FloatOps.addf (rfl) (rfl)

theorem k0_pay555_lane (v1517 : FVec F S16 .f32) (v1522 : FVec F S16 .f32) (l : Fin 16) :
    k0_pay555 v1517 v1522 (ix1 l) = FloatOps.addf (v1517 (ix1 l)) (v1522 (ix1 l)) := by
  unfold k0_pay555
  exact congrArg₂ FloatOps.addf (rfl) (rfl)

theorem k0_pay556_lane (v1527 : FVec F S16 .f32) (v1532 : FVec F S16 .f32) (l : Fin 16) :
    k0_pay556 v1527 v1532 (ix1 l) = FloatOps.addf (v1527 (ix1 l)) (v1532 (ix1 l)) := by
  unfold k0_pay556
  exact congrArg₂ FloatOps.addf (rfl) (rfl)

theorem k0_pay557_lane (v1537 : FVec F S16 .f32) (v1542 : FVec F S16 .f32) (l : Fin 16) :
    k0_pay557 v1537 v1542 (ix1 l) = FloatOps.addf (v1537 (ix1 l)) (v1542 (ix1 l)) := by
  unfold k0_pay557
  exact congrArg₂ FloatOps.addf (rfl) (rfl)

theorem k0_pay558_lane (v1547 : FVec F S16 .f32) (v1552 : FVec F S16 .f32) (l : Fin 16) :
    k0_pay558 v1547 v1552 (ix1 l) = FloatOps.addf (v1547 (ix1 l)) (v1552 (ix1 l)) := by
  unfold k0_pay558
  exact congrArg₂ FloatOps.addf (rfl) (rfl)

theorem k0_pay559_lane (v1557 : FVec F S16 .f32) (v1562 : FVec F S16 .f32) (l : Fin 16) :
    k0_pay559 v1557 v1562 (ix1 l) = FloatOps.addf (v1557 (ix1 l)) (v1562 (ix1 l)) := by
  unfold k0_pay559
  exact congrArg₂ FloatOps.addf (rfl) (rfl)

theorem k0_pay560_lane (v1567 : FVec F S16 .f32) (v1572 : FVec F S16 .f32) (l : Fin 16) :
    k0_pay560 v1567 v1572 (ix1 l) = FloatOps.addf (v1567 (ix1 l)) (v1572 (ix1 l)) := by
  unfold k0_pay560
  exact congrArg₂ FloatOps.addf (rfl) (rfl)

theorem k0_pay561_lane (v1577 : FVec F S16 .f32) (v1582 : FVec F S16 .f32) (l : Fin 16) :
    k0_pay561 v1577 v1582 (ix1 l) = FloatOps.addf (v1577 (ix1 l)) (v1582 (ix1 l)) := by
  unfold k0_pay561
  exact congrArg₂ FloatOps.addf (rfl) (rfl)

theorem k0_pay562_lane (v1587 : FVec F S16 .f32) (v1592 : FVec F S16 .f32) (l : Fin 16) :
    k0_pay562 v1587 v1592 (ix1 l) = FloatOps.addf (v1587 (ix1 l)) (v1592 (ix1 l)) := by
  unfold k0_pay562
  exact congrArg₂ FloatOps.addf (rfl) (rfl)

theorem k0_pay563_lane (v1597 : FVec F S16 .f32) (v1602 : FVec F S16 .f32) (l : Fin 16) :
    k0_pay563 v1597 v1602 (ix1 l) = FloatOps.addf (v1597 (ix1 l)) (v1602 (ix1 l)) := by
  unfold k0_pay563
  exact congrArg₂ FloatOps.addf (rfl) (rfl)

theorem k0_pay564_lane (v1607 : FVec F S16 .f32) (v1612 : FVec F S16 .f32) (l : Fin 16) :
    k0_pay564 v1607 v1612 (ix1 l) = FloatOps.addf (v1607 (ix1 l)) (v1612 (ix1 l)) := by
  unfold k0_pay564
  exact congrArg₂ FloatOps.addf (rfl) (rfl)

theorem k0_pay565_lane (v1616 : Vec F S1x1x16 .f32) (v1621 : Vec F S1x1x16 .f32) (l : Fin 16) :
    k0_pay565 v1616 v1621 (ix1 l) = FloatOps.addf (v1616 (ix3 (0 : Fin 1) (0 : Fin 1) l)) (v1621 (ix3 (0 : Fin 1) (0 : Fin 1) l)) := by
  unfold k0_pay565
  exact congrArg₂ FloatOps.addf (cast_16 v1616 l) (cast_16 v1621 l)

theorem k0_pay566_lane (v1626 : Vec F S1x1x16 .f32) (v1631 : Vec F S1x1x16 .f32) (l : Fin 16) :
    k0_pay566 v1626 v1631 (ix1 l) = FloatOps.addf (v1626 (ix3 (0 : Fin 1) (0 : Fin 1) l)) (v1631 (ix3 (0 : Fin 1) (0 : Fin 1) l)) := by
  unfold k0_pay566
  exact congrArg₂ FloatOps.addf (cast_16 v1626 l) (cast_16 v1631 l)

theorem k0_pay567_lane (v1636 : Vec F S1x1x16 .f32) (v1641 : Vec F S1x1x16 .f32) (l : Fin 16) :
    k0_pay567 v1636 v1641 (ix1 l) = FloatOps.addf (v1636 (ix3 (0 : Fin 1) (0 : Fin 1) l)) (v1641 (ix3 (0 : Fin 1) (0 : Fin 1) l)) := by
  unfold k0_pay567
  exact congrArg₂ FloatOps.addf (cast_16 v1636 l) (cast_16 v1641 l)

theorem k0_pay568_lane (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (l : Fin 16) :
    k0_pay568 v1643 v1644 v1645 v1646 v1647 v1648 v1649 v1650 v1651 v1652 v1653 v1654 v1655 v1656 v1657 v1658 (ix1 l) = FloatOps.addf (FloatOps.addf (FloatOps.addf (FloatOps.addf (v1643 (ix1 l)) (v1644 (ix1 l))) (FloatOps.addf (v1645 (ix1 l)) (v1646 (ix1 l)))) (FloatOps.addf (FloatOps.addf (v1647 (ix1 l)) (v1648 (ix1 l))) (FloatOps.addf (v1649 (ix1 l)) (v1650 (ix1 l))))) (FloatOps.addf (FloatOps.addf (FloatOps.addf (v1651 (ix1 l)) (v1652 (ix1 l))) (FloatOps.addf (v1653 (ix1 l)) (v1654 (ix1 l)))) (FloatOps.addf (FloatOps.addf (v1655 (ix1 l)) (v1656 (ix1 l))) (FloatOps.addf (v1657 (ix1 l)) (v1658 (ix1 l))))) := by
  unfold k0_pay568
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))

theorem k0_pay568_tree (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (w : Fin 32 → F .f32) (l : Fin 16)
    (h_v1643 : v1643 (ix1 l) = FloatOps.addf (w 0) (w 1))
    (h_v1644 : v1644 (ix1 l) = FloatOps.addf (w 2) (w 3))
    (h_v1645 : v1645 (ix1 l) = FloatOps.addf (w 4) (w 5))
    (h_v1646 : v1646 (ix1 l) = FloatOps.addf (w 6) (w 7))
    (h_v1647 : v1647 (ix1 l) = FloatOps.addf (w 8) (w 9))
    (h_v1648 : v1648 (ix1 l) = FloatOps.addf (w 10) (w 11))
    (h_v1649 : v1649 (ix1 l) = FloatOps.addf (w 12) (w 13))
    (h_v1650 : v1650 (ix1 l) = FloatOps.addf (w 14) (w 15))
    (h_v1651 : v1651 (ix1 l) = FloatOps.addf (w 16) (w 17))
    (h_v1652 : v1652 (ix1 l) = FloatOps.addf (w 18) (w 19))
    (h_v1653 : v1653 (ix1 l) = FloatOps.addf (w 20) (w 21))
    (h_v1654 : v1654 (ix1 l) = FloatOps.addf (w 22) (w 23))
    (h_v1655 : v1655 (ix1 l) = FloatOps.addf (w 24) (w 25))
    (h_v1656 : v1656 (ix1 l) = FloatOps.addf (w 26) (w 27))
    (h_v1657 : v1657 (ix1 l) = FloatOps.addf (w 28) (w 29))
    (h_v1658 : v1658 (ix1 l) = FloatOps.addf (w 30) (w 31)) :
    k0_pay568 v1643 v1644 v1645 v1646 v1647 v1648 v1649 v1650 v1651 v1652 v1653 v1654 v1655 v1656 v1657 v1658 (ix1 l) = tree32 w := by
  unfold k0_pay568
  exact congrArg₂ FloatOps.addf (congrArg₂ FloatOps.addf (congrArg₂ FloatOps.addf (congrArg₂ FloatOps.addf (h_v1643) (h_v1644)) (congrArg₂ FloatOps.addf (h_v1645) (h_v1646))) (congrArg₂ FloatOps.addf (congrArg₂ FloatOps.addf (h_v1647) (h_v1648)) (congrArg₂ FloatOps.addf (h_v1649) (h_v1650)))) (congrArg₂ FloatOps.addf (congrArg₂ FloatOps.addf (congrArg₂ FloatOps.addf (h_v1651) (h_v1652)) (congrArg₂ FloatOps.addf (h_v1653) (h_v1654))) (congrArg₂ FloatOps.addf (congrArg₂ FloatOps.addf (h_v1655) (h_v1656)) (congrArg₂ FloatOps.addf (h_v1657) (h_v1658))))

theorem k0_pay569_lane (v1673 : FVec F S16 .f32) (l : Fin 16) :
    k0_pay569 v1673 (ix3 (0 : Fin 1) (0 : Fin 1) l) = v1673 (ix1 l) := by
  unfold k0_pay569
  exact cast_116 v1673 l

theorem k0_pay570_lane (v1673 : FVec F S16 .f32) (l : Fin 16) :
    k0_pay570 v1673 (ix3 (0 : Fin 1) (0 : Fin 1) l) = v1673 (ix1 l) := by
  unfold k0_pay570
  exact cast_116 v1673 l

end Cert.Proof.KB

end
-- ==== Proof.BodyInnerK.lean ====
import proofs.«205366_g3083786518796_cont_9to1_852_38_alg».proof.Proof.BodyLemmasK
import proofs.«205366_g3083786518796_cont_9to1_852_38_alg».proof.Proof.ScTree0K
import Idealize.ShloMosaic.Lib.Writes
import Idealize.ShloMosaic.Lib.ValueIdx

noncomputable section

/-!
# One trip of a tile's inner loop, with what it stores named

A trip of the inner loop takes one row `r` of one slot of the output scratch: for each of the eight groups of 16
lanes it loads the 32 gathered rows `32·r … 32·r + 31` of the same slot of the row scratch at those lanes, adds them in
five levels of pairwise sums, and stores the 16 sums.  After the trip the output scratch holds, at row `r` of that
slot, lane by lane the balanced tree of the 32 gathered numbers, and is unchanged everywhere else; the row scratch is
only read.
-/

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KB (tree32)

variable {F : FTy → Type}

variable [FloatOps F]
variable {U : Type} [URA U] [CountersIn U]

local notation "𝕄" => MT nD τ sig (HIx 3) (Elt F) ℕ U ℕ
local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

section Inner
variable (d : Dev nD) (L : grid0.Coords)

theorem trips_t2 : k0_t2_loop.trips = 4 := by decide
theorem trips_t3 : k0_t3_loop.trips = 4 := by decide
theorem k2_lt (k2 : Fin k0_t2_loop.trips) : k2.val < 4 := lt_of_lt_of_eq k2.isLt trips_t2
theorem k3_lt (k3 : Fin k0_t3_loop.trips) : k3.val < 4 := lt_of_lt_of_eq k3.isLt trips_t3

/-- An index of a [1,1,16] block is its lane. -/
theorem exists_lane (x : S1x1x16.Idx) : ∃ l : Fin 16, x = ix3 (0 : Fin 1) (0 : Fin 1) l := by
  refine ⟨x 2, ?_⟩
  funext a
  match a with
  | ⟨0, _⟩ => exact (Subsingleton.elim (α := Fin 1) _ _)
  | ⟨1, _⟩ => exact (Subsingleton.elim (α := Fin 1) _ _)
  | ⟨2, _⟩ => rfl

/-- A 16-lane load of the row scratch at slot `s`, row `R`, lanes from `c`: its lane `l` is the scratch's entry there. -/
theorem ld_lane (o : Fin 3 → Nat) (s : Fin 2) (R c : Nat) (hR : R < 128) (hc : c + 16 ≤ 128) (ho : o = ![s.val, R, c])
    (h : ∀ a, o a + S1x1x16.size a ≤ S2x128x128.size a) (fr : Buf (Elt F) ((V d (cV L) (jV L)).loc cc0_scratch1)) (l : Fin 16) :
    View.readAt (Elt F) (Memref.whole cc0_scratch1).view (Rect.unit (s := S2x128x128) o S1x1x16.size h).toLoadRect fr
        (ix3 (0 : Fin 1) (0 : Fin 1) l)
      = fr (ix3 s (⟨R, hR⟩ : Fin 128) (⟨c + l.val, by omega⟩ : Fin 128)) := by
  subst ho
  rw [View.readAt_apply]
  show fr ((Rect.unit (s := S2x128x128) ![s.val, R, c] S1x1x16.size h).toLoadRect.idx (ix3 (0 : Fin 1) (0 : Fin 1) l)) = _
  refine congrArg fr ?_
  funext a; apply Fin.ext
  match a with
  | ⟨0, _⟩ => show s.val + 1 * 0 = s.val; omega
  | ⟨1, _⟩ => show R + 1 * 0 = R; omega
  | ⟨2, _⟩ => show c + 1 * l.val = c + l.val; omega

/-- What row `r` of slot `s` of the output scratch is to hold at an index `y` of that row: the tree of the 32 gathered
    numbers, rows `32·r …` of slot `s` of the row scratch at `y`'s lane. -/
def scrSum (s : Fin 2) (fr : Buf (Elt F) ((V d (cV L) (jV L)).loc cc0_scratch1)) (r : Nat) (hr : r < 4) (y : S2x4x128.Idx) : F .f32 :=
  tree32 fun k : Fin 32 => fr (ix3 s (⟨32 * r + k.val, by omega⟩ : Fin 128) (y 2))

set_option maxHeartbeats 4000000 in
/-- Trip `kk` of slot 0's inner loop: the row scratch is only read; the output scratch ends with row `kk` of
    slot 0 at the trees of the 32 gathered rows, lane by lane, and is unchanged off that row.  (The contents are read
    through the whole buffer's view, `View.read … f = f`.) -/
theorem inner_trip0 (k : Fin k0_t1_loop.trips) (kk : Fin k0_t2_loop.trips)
    (fr : Buf (Elt F) ((V d (cV L) (jV L)).loc cc0_scratch1)) (fob : Buf (Elt F) ((V d (cV L) (jV L)).loc cc0_scratch2))
    (v2 : BitVec 32) :
    iprop(((rwV).view.loc (V d (cV L) (jV L)) ↦[Finset.univ \ (rwK1).view.set]{fullShare} fr)
      ∗ ((obV).view.loc (V d (cV L) (jV L)) ↦[Finset.univ \ (obK1).view.set]{fullShare} fob))
      ⊢ (wp frame (wpE (defs₀ (F := F)) 𝒱₀ (V d (cV L) (jV L)) none) Set.univ
          (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k kk ())
          fun _ => iprop(((rwV).view.loc (V d (cV L) (jV L)) ↦[Finset.univ \ (rwK1).view.set]{fullShare} fr)
            ∗ ∃ fob'' : Buf (Elt F) ((V d (cV L) (jV L)).loc cc0_scratch2), ((obV).view.loc (V d (cV L) (jV L)) ↦[Finset.univ \ (obK1).view.set]{fullShare} fob'')
              ∗ ⌜(∀ (g : Fin 8) (l : Fin 16), View.read (Elt F) (Memref.whole cc0_scratch2).view fob'' (ix3 (0 : Fin 2) (⟨kk.val, k2_lt kk⟩ : Fin 4) (⟨16 * g.val + l.val, by omega⟩ : Fin 128))
                    = scrSum d L (0 : Fin 2) fr kk.val (k2_lt kk) (ix3 (0 : Fin 2) (⟨kk.val, k2_lt kk⟩ : Fin 4) (⟨16 * g.val + l.val, by omega⟩ : Fin 128)))
                ∧ (∀ y : S2x4x128.Idx, ¬((y 0).val = 0 ∧ (y 1).val = kk.val) →
                    View.read (Elt F) (Memref.whole cc0_scratch2).view fob'' y = View.read (Elt F) (Memref.whole cc0_scratch2).view fob y)⌝) : sProp 𝕄) := by
  iintro ⟨Hrw, Hob⟩
  unfold k0_t2_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc0_scratch2).view fob (scrSum d L (0 : Fin 2) fr kk.val (k2_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (0 : Fin 2) fr kk.val (k2_lt kk) ((Rect.unit (s := S2x4x128) (k0_off19 kk) S1x1x16.size (k0_off19_inb kk)).emb (ix3 (0 : Fin 1) (0 : Fin 1) l'))
        simp only [Cert.Proof.KB.k0_pay569_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off18 kk (BitVec.ofNat 32 k.val)) S1x1x16.size (k0_off18_inb kk k)).toLoadRect fr (ix3 (0 : Fin 1) (0 : Fin 1) l')) rfl ?_
        refine (congrArg tree32 (funext fun k => ld_lane d L _ (0 : Fin 2) (32 * kk.val + k.val) 112 (by have := k2_lt kk; omega) (by omega) (k0_off18_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 112 + l'.val = k0_off19 kk 2 + 1 * l'.val
        rw [k0_off19_eq]
        show 112 + l'.val = 112 + 1 * l'.val
        omega
      · -- lane group 6: lanes 96 … 111
        intro x
        obtain ⟨l', rfl⟩ := exists_lane x
        show _ = scrSum d L (0 : Fin 2) fr kk.val (k2_lt kk) ((Rect.unit (s := S2x4x128) (k0_off17 kk) S1x1x16.size (k0_off17_inb kk)).emb (ix3 (0 : Fin 1) (0 : Fin 1) l'))
        simp only [Cert.Proof.KB.k0_pay241_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off16 kk (BitVec.ofNat 32 k.val)) S1x1x16.size (k0_off16_inb kk k)).toLoadRect fr (ix3 (0 : Fin 1) (0 : Fin 1) l')) rfl ?_
        refine (congrArg tree32 (funext fun k => ld_lane d L _ (0 : Fin 2) (32 * kk.val + k.val) 96 (by have := k2_lt kk; omega) (by omega) (k0_off16_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 96 + l'.val = k0_off17 kk 2 + 1 * l'.val
        rw [k0_off17_eq]
        show 96 + l'.val = 96 + 1 * l'.val
        omega
      · -- lane group 5: lanes 80 … 95
        intro x
        obtain ⟨l', rfl⟩ := exists_lane x
        show _ = scrSum d L (0 : Fin 2) fr kk.val (k2_lt kk) ((Rect.unit (s := S2x4x128) (k0_off15 kk) S1x1x16.size (k0_off15_inb kk)).emb (ix3 (0 : Fin 1) (0 : Fin 1) l'))
        simp only [Cert.Proof.KB.k0_pay197_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off14 kk (BitVec.ofNat 32 k.val)) S1x1x16.size (k0_off14_inb kk k)).toLoadRect fr (ix3 (0 : Fin 1) (0 : Fin 1) l')) rfl ?_
        refine (congrArg tree32 (funext fun k => ld_lane d L _ (0 : Fin 2) (32 * kk.val + k.val) 80 (by have := k2_lt kk; omega) (by omega) (k0_off14_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 80 + l'.val = k0_off15 kk 2 + 1 * l'.val
        rw [k0_off15_eq]
        show 80 + l'.val = 80 + 1 * l'.val
        omega
      · -- lane group 4: lanes 64 … 79
        intro x
        obtain ⟨l', rfl⟩ := exists_lane x
        show _ = scrSum d L (0 : Fin 2) fr kk.val (k2_lt kk) ((Rect.unit (s := S2x4x128) (k0_off13 kk) S1x1x16.size (k0_off13_inb kk)).emb (ix3 (0 : Fin 1) (0 : Fin 1) l'))
        simp only [Cert.Proof.KB.k0_pay158_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off12 kk (BitVec.ofNat 32 k.val)) S1x1x16.size (k0_off12_inb kk k)).toLoadRect fr (ix3 (0 : Fin 1) (0 : Fin 1) l')) rfl ?_
        refine (congrArg tree32 (funext fun k => ld_lane d L _ (0 : Fin 2) (32 * kk.val + k.val) 64 (by have := k2_lt kk; omega) (by omega) (k0_off12_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 64 + l'.val = k0_off13 kk 2 + 1 * l'.val
        rw [k0_off13_eq]
        show 64 + l'.val = 64 + 1 * l'.val
        omega
      · -- lane group 3: lanes 48 … 63
        intro x
        obtain ⟨l', rfl⟩ := exists_lane x
        show _ = scrSum d L (0 : Fin 2) fr kk.val (k2_lt kk) ((Rect.unit (s := S2x4x128) (k0_off11 kk) S1x1x16.size (k0_off11_inb kk)).emb (ix3 (0 : Fin 1) (0 : Fin 1) l'))
        simp only [Cert.Proof.KB.k0_pay124_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off10 kk (BitVec.ofNat 32 k.val)) S1x1x16.size (k0_off10_inb kk k)).toLoadRect fr (ix3 (0 : Fin 1) (0 : Fin 1) l')) rfl ?_
        refine (congrArg tree32 (funext fun k => ld_lane d L _ (0 : Fin 2) (32 * kk.val + k.val) 48 (by have := k2_lt kk; omega) (by omega) (k0_off10_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 48 + l'.val = k0_off11 kk 2 + 1 * l'.val
        rw [k0_off11_eq]
        show 48 + l'.val = 48 + 1 * l'.val
        omega
      · -- lane group 2: lanes 32 … 47
        intro x
        obtain ⟨l', rfl⟩ := exists_lane x
        show _ = scrSum d L (0 : Fin 2) fr kk.val (k2_lt kk) ((Rect.unit (s := S2x4x128) (k0_off9 kk) S1x1x16.size (k0_off9_inb kk)).emb (ix3 (0 : Fin 1) (0 : Fin 1) l'))
        simp only [Cert.Proof.KB.k0_pay92_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off8 kk (BitVec.ofNat 32 k.val)) S1x1x16.size (k0_off8_inb kk k)).toLoadRect fr (ix3 (0 : Fin 1) (0 : Fin 1) l')) rfl ?_
        refine (congrArg tree32 (funext fun k => ld_lane d L _ (0 : Fin 2) (32 * kk.val + k.val) 32 (by have := k2_lt kk; omega) (by omega) (k0_off8_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 32 + l'.val = k0_off9 kk 2 + 1 * l'.val
        rw [k0_off9_eq]
        show 32 + l'.val = 32 + 1 * l'.val
        omega
      · -- lane group 1: lanes 16 … 31
        intro x
        obtain ⟨l', rfl⟩ := exists_lane x
        show _ = scrSum d L (0 : Fin 2) fr kk.val (k2_lt kk) ((Rect.unit (s := S2x4x128) (k0_off7 kk) S1x1x16.size (k0_off7_inb kk)).emb (ix3 (0 : Fin 1) (0 : Fin 1) l'))
        simp only [Cert.Proof.KB.k0_pay61_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off6 kk (BitVec.ofNat 32 k.val)) S1x1x16.size (k0_off6_inb kk k)).toLoadRect fr (ix3 (0 : Fin 1) (0 : Fin 1) l')) rfl ?_
        refine (congrArg tree32 (funext fun k => ld_lane d L _ (0 : Fin 2) (32 * kk.val + k.val) 16 (by have := k2_lt kk; omega) (by omega) (k0_off6_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 16 + l'.val = k0_off7 kk 2 + 1 * l'.val
        rw [k0_off7_eq]
        show 16 + l'.val = 16 + 1 * l'.val
        omega
      · -- lane group 0: lanes 0 … 15
        intro x
        obtain ⟨l', rfl⟩ := exists_lane x
        show _ = scrSum d L (0 : Fin 2) fr kk.val (k2_lt kk) ((Rect.unit (s := S2x4x128) (k0_off5 kk) S1x1x16.size (k0_off5_inb kk)).emb (ix3 (0 : Fin 1) (0 : Fin 1) l'))
        simp only [Cert.Proof.KB.k0_pay30_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off4 kk (BitVec.ofNat 32 k.val)) S1x1x16.size (k0_off4_inb kk k)).toLoadRect fr (ix3 (0 : Fin 1) (0 : Fin 1) l')) rfl ?_
        refine (congrArg tree32 (funext fun k => ld_lane d L _ (0 : Fin 2) (32 * kk.val + k.val) 0 (by have := k2_lt kk; omega) (by omega) (k0_off4_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 0 + l'.val = k0_off5 kk 2 + 1 * l'.val
        rw [k0_off5_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (0 : Fin 2) (⟨kk.val, k2_lt kk⟩ : Fin 4) (⟨16 * 0 + l.val, by omega⟩ : Fin 128)) ∈ (Rect.unit (s := S2x4x128) (k0_off5 kk) S1x1x16.size (k0_off5_inb kk)).set
        rw [Rect.mem_set_unit, k0_off5_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (0 : Fin 2) (⟨kk.val, k2_lt kk⟩ : Fin 4) (⟨16 * 1 + l.val, by omega⟩ : Fin 128)) ∈ (Rect.unit (s := S2x4x128) (k0_off7 kk) S1x1x16.size (k0_off7_inb kk)).set
        rw [Rect.mem_set_unit, k0_off7_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (0 : Fin 2) (⟨kk.val, k2_lt kk⟩ : Fin 4) (⟨16 * 2 + l.val, by omega⟩ : Fin 128)) ∈ (Rect.unit (s := S2x4x128) (k0_off9 kk) S1x1x16.size (k0_off9_inb kk)).set
        rw [Rect.mem_set_unit, k0_off9_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (0 : Fin 2) (⟨kk.val, k2_lt kk⟩ : Fin 4) (⟨16 * 3 + l.val, by omega⟩ : Fin 128)) ∈ (Rect.unit (s := S2x4x128) (k0_off11 kk) S1x1x16.size (k0_off11_inb kk)).set
        rw [Rect.mem_set_unit, k0_off11_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (0 : Fin 2) (⟨kk.val, k2_lt kk⟩ : Fin 4) (⟨16 * 4 + l.val, by omega⟩ : Fin 128)) ∈ (Rect.unit (s := S2x4x128) (k0_off13 kk) S1x1x16.size (k0_off13_inb kk)).set
        rw [Rect.mem_set_unit, k0_off13_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (0 : Fin 2) (⟨kk.val, k2_lt kk⟩ : Fin 4) (⟨16 * 5 + l.val, by omega⟩ : Fin 128)) ∈ (Rect.unit (s := S2x4x128) (k0_off15 kk) S1x1x16.size (k0_off15_inb kk)).set
        rw [Rect.mem_set_unit, k0_off15_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (0 : Fin 2) (⟨kk.val, k2_lt kk⟩ : Fin 4) (⟨16 * 6 + l.val, by omega⟩ : Fin 128)) ∈ (Rect.unit (s := S2x4x128) (k0_off17 kk) S1x1x16.size (k0_off17_inb kk)).set
        rw [Rect.mem_set_unit, k0_off17_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (0 : Fin 2) (⟨kk.val, k2_lt kk⟩ : Fin 4) (⟨16 * 7 + l.val, by omega⟩ : Fin 128)) ∈ (Rect.unit (s := S2x4x128) (k0_off19 kk) S1x1x16.size (k0_off19_inb kk)).set
        rw [Rect.mem_set_unit, k0_off19_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc0_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k0_off19 kk) S1x1x16.size (k0_off19_inb kk)).set := hm
      rw [Rect.mem_set_unit, k0_off19_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 6
      intro hm
      have hm' : y ∈ (Rect.unit (s := S2x4x128) (k0_off17 kk) S1x1x16.size (k0_off17_inb kk)).set := hm
      rw [Rect.mem_set_unit, k0_off17_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 5
      intro hm
      have hm' : y ∈ (Rect.unit (s := S2x4x128) (k0_off15 kk) S1x1x16.size (k0_off15_inb kk)).set := hm
      rw [Rect.mem_set_unit, k0_off15_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 4
      intro hm
      have hm' : y ∈ (Rect.unit (s := S2x4x128) (k0_off13 kk) S1x1x16.size (k0_off13_inb kk)).set := hm
      rw [Rect.mem_set_unit, k0_off13_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 3
      intro hm
      have hm' : y ∈ (Rect.unit (s := S2x4x128) (k0_off11 kk) S1x1x16.size (k0_off11_inb kk)).set := hm
      rw [Rect.mem_set_unit, k0_off11_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 2
      intro hm
      have hm' : y ∈ (Rect.unit (s := S2x4x128) (k0_off9 kk) S1x1x16.size (k0_off9_inb kk)).set := hm
      rw [Rect.mem_set_unit, k0_off9_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 1
      intro hm
      have hm' : y ∈ (Rect.unit (s := S2x4x128) (k0_off7 kk) S1x1x16.size (k0_off7_inb kk)).set := hm
      rw [Rect.mem_set_unit, k0_off7_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 0
      intro hm
      have hm' : y ∈ (Rect.unit (s := S2x4x128) (k0_off5 kk) S1x1x16.size (k0_off5_inb kk)).set := hm
      rw [Rect.mem_set_unit, k0_off5_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩

set_option maxHeartbeats 4000000 in
/-- Trip `kk` of slot 0's inner loop while the output scratch is still held whole: the row scratch is only read; the output scratch ends with row `kk` of
    slot 0 at the trees of the 32 gathered rows, lane by lane, and is unchanged off that row.  (The contents are read
    through the whole buffer's view, `View.read … f = f`.) -/
theorem inner_trip0_first (k : Fin k0_t1_loop.trips) (kk : Fin k0_t2_loop.trips)
    (fr : Buf (Elt F) ((V d (cV L) (jV L)).loc cc0_scratch1)) (fob : Buf (Elt F) ((V d (cV L) (jV L)).loc cc0_scratch2))
    (v2 : BitVec 32) :
    iprop(((rwV).view.loc (V d (cV L) (jV L)) ↦[Finset.univ \ (rwK1).view.set]{fullShare} fr)
      ∗ ((obV).view.loc (V d (cV L) (jV L)) ↦{fullShare} fob))
      ⊢ (wp frame (wpE (defs₀ (F := F)) 𝒱₀ (V d (cV L) (jV L)) none) Set.univ
          (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k kk ())
          fun _ => iprop(((rwV).view.loc (V d (cV L) (jV L)) ↦[Finset.univ \ (rwK1).view.set]{fullShare} fr)
            ∗ ∃ fob'' : Buf (Elt F) ((V d (cV L) (jV L)).loc cc0_scratch2), ((obV).view.loc (V d (cV L) (jV L)) ↦{fullShare} fob'')
              ∗ ⌜(∀ (g : Fin 8) (l : Fin 16), View.read (Elt F) (Memref.whole cc0_scratch2).view fob'' (ix3 (0 : Fin 2) (⟨kk.val, k2_lt kk⟩ : Fin 4) (⟨16 * g.val + l.val, by omega⟩ : Fin 128))
                    = scrSum d L (0 : Fin 2) fr kk.val (k2_lt kk) (ix3 (0 : Fin 2) (⟨kk.val, k2_lt kk⟩ : Fin 4) (⟨16 * g.val + l.val, by omega⟩ : Fin 128)))
                ∧ (∀ y : S2x4x128.Idx, ¬((y 0).val = 0 ∧ (y 1).val = kk.val) →
                    View.read (Elt F) (Memref.whole cc0_scratch2).view fob'' y = View.read (Elt F) (Memref.whole cc0_scratch2).view fob y)⌝) : sProp 𝕄) := by
  iintro ⟨Hrw, Hob⟩
  unfold k0_t2_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc0_scratch2).view fob (scrSum d L (0 : Fin 2) fr kk.val (k2_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (0 : Fin 2) fr kk.val (k2_lt kk) ((Rect.unit (s := S2x4x128) (k0_off19 kk) S1x1x16.size (k0_off19_inb kk)).emb (ix3 (0 : Fin 1) (0 : Fin 1) l'))
        simp only [Cert.Proof.KB.k0_pay569_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off18 kk (BitVec.ofNat 32 k.val)) S1x1x16.size (k0_off18_inb kk k)).toLoadRect fr (ix3 (0 : Fin 1) (0 : Fin 1) l')) rfl ?_
        refine (congrArg tree32 (funext fun k => ld_lane d L _ (0 : Fin 2) (32 * kk.val + k.val) 112 (by have := k2_lt kk; omega) (by omega) (k0_off18_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 112 + l'.val = k0_off19 kk 2 + 1 * l'.val
        rw [k0_off19_eq]
        show 112 + l'.val = 112 + 1 * l'.val
        omega
      · -- lane group 6: lanes 96 … 111
        intro x
        obtain ⟨l', rfl⟩ := exists_lane x
        show _ = scrSum d L (0 : Fin 2) fr kk.val (k2_lt kk) ((Rect.unit (s := S2x4x128) (k0_off17 kk) S1x1x16.size (k0_off17_inb kk)).emb (ix3 (0 : Fin 1) (0 : Fin 1) l'))
        simp only [Cert.Proof.KB.k0_pay241_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off16 kk (BitVec.ofNat 32 k.val)) S1x1x16.size (k0_off16_inb kk k)).toLoadRect fr (ix3 (0 : Fin 1) (0 : Fin 1) l')) rfl ?_
        refine (congrArg tree32 (funext fun k => ld_lane d L _ (0 : Fin 2) (32 * kk.val + k.val) 96 (by have := k2_lt kk; omega) (by omega) (k0_off16_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 96 + l'.val = k0_off17 kk 2 + 1 * l'.val
        rw [k0_off17_eq]
        show 96 + l'.val = 96 + 1 * l'.val
        omega
      · -- lane group 5: lanes 80 … 95
        intro x
        obtain ⟨l', rfl⟩ := exists_lane x
        show _ = scrSum d L (0 : Fin 2) fr kk.val (k2_lt kk) ((Rect.unit (s := S2x4x128) (k0_off15 kk) S1x1x16.size (k0_off15_inb kk)).emb (ix3 (0 : Fin 1) (0 : Fin 1) l'))
        simp only [Cert.Proof.KB.k0_pay197_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off14 kk (BitVec.ofNat 32 k.val)) S1x1x16.size (k0_off14_inb kk k)).toLoadRect fr (ix3 (0 : Fin 1) (0 : Fin 1) l')) rfl ?_
        refine (congrArg tree32 (funext fun k => ld_lane d L _ (0 : Fin 2) (32 * kk.val + k.val) 80 (by have := k2_lt kk; omega) (by omega) (k0_off14_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 80 + l'.val = k0_off15 kk 2 + 1 * l'.val
        rw [k0_off15_eq]
        show 80 + l'.val = 80 + 1 * l'.val
        omega
      · -- lane group 4: lanes 64 … 79
        intro x
        obtain ⟨l', rfl⟩ := exists_lane x
        show _ = scrSum d L (0 : Fin 2) fr kk.val (k2_lt kk) ((Rect.unit (s := S2x4x128) (k0_off13 kk) S1x1x16.size (k0_off13_inb kk)).emb (ix3 (0 : Fin 1) (0 : Fin 1) l'))
        simp only [Cert.Proof.KB.k0_pay158_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off12 kk (BitVec.ofNat 32 k.val)) S1x1x16.size (k0_off12_inb kk k)).toLoadRect fr (ix3 (0 : Fin 1) (0 : Fin 1) l')) rfl ?_
        refine (congrArg tree32 (funext fun k => ld_lane d L _ (0 : Fin 2) (32 * kk.val + k.val) 64 (by have := k2_lt kk; omega) (by omega) (k0_off12_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 64 + l'.val = k0_off13 kk 2 + 1 * l'.val
        rw [k0_off13_eq]
        show 64 + l'.val = 64 + 1 * l'.val
        omega
      · -- lane group 3: lanes 48 … 63
        intro x
        obtain ⟨l', rfl⟩ := exists_lane x
        show _ = scrSum d L (0 : Fin 2) fr kk.val (k2_lt kk) ((Rect.unit (s := S2x4x128) (k0_off11 kk) S1x1x16.size (k0_off11_inb kk)).emb (ix3 (0 : Fin 1) (0 : Fin 1) l'))
        simp only [Cert.Proof.KB.k0_pay124_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off10 kk (BitVec.ofNat 32 k.val)) S1x1x16.size (k0_off10_inb kk k)).toLoadRect fr (ix3 (0 : Fin 1) (0 : Fin 1) l')) rfl ?_
        refine (congrArg tree32 (funext fun k => ld_lane d L _ (0 : Fin 2) (32 * kk.val + k.val) 48 (by have := k2_lt kk; omega) (by omega) (k0_off10_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 48 + l'.val = k0_off11 kk 2 + 1 * l'.val
        rw [k0_off11_eq]
        show 48 + l'.val = 48 + 1 * l'.val
        omega
      · -- lane group 2: lanes 32 … 47
        intro x
        obtain ⟨l', rfl⟩ := exists_lane x
        show _ = scrSum d L (0 : Fin 2) fr kk.val (k2_lt kk) ((Rect.unit (s := S2x4x128) (k0_off9 kk) S1x1x16.size (k0_off9_inb kk)).emb (ix3 (0 : Fin 1) (0 : Fin 1) l'))
        simp only [Cert.Proof.KB.k0_pay92_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off8 kk (BitVec.ofNat 32 k.val)) S1x1x16.size (k0_off8_inb kk k)).toLoadRect fr (ix3 (0 : Fin 1) (0 : Fin 1) l')) rfl ?_
        refine (congrArg tree32 (funext fun k => ld_lane d L _ (0 : Fin 2) (32 * kk.val + k.val) 32 (by have := k2_lt kk; omega) (by omega) (k0_off8_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 32 + l'.val = k0_off9 kk 2 + 1 * l'.val
        rw [k0_off9_eq]
        show 32 + l'.val = 32 + 1 * l'.val
        omega
      · -- lane group 1: lanes 16 … 31
        intro x
        obtain ⟨l', rfl⟩ := exists_lane x
        show _ = scrSum d L (0 : Fin 2) fr kk.val (k2_lt kk) ((Rect.unit (s := S2x4x128) (k0_off7 kk) S1x1x16.size (k0_off7_inb kk)).emb (ix3 (0 : Fin 1) (0 : Fin 1) l'))
        simp only [Cert.Proof.KB.k0_pay61_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off6 kk (BitVec.ofNat 32 k.val)) S1x1x16.size (k0_off6_inb kk k)).toLoadRect fr (ix3 (0 : Fin 1) (0 : Fin 1) l')) rfl ?_
        refine (congrArg tree32 (funext fun k => ld_lane d L _ (0 : Fin 2) (32 * kk.val + k.val) 16 (by have := k2_lt kk; omega) (by omega) (k0_off6_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 16 + l'.val = k0_off7 kk 2 + 1 * l'.val
        rw [k0_off7_eq]
        show 16 + l'.val = 16 + 1 * l'.val
        omega
      · -- lane group 0: lanes 0 … 15
        intro x
        obtain ⟨l', rfl⟩ := exists_lane x
        show _ = scrSum d L (0 : Fin 2) fr kk.val (k2_lt kk) ((Rect.unit (s := S2x4x128) (k0_off5 kk) S1x1x16.size (k0_off5_inb kk)).emb (ix3 (0 : Fin 1) (0 : Fin 1) l'))
        simp only [Cert.Proof.KB.k0_pay30_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off4 kk (BitVec.ofNat 32 k.val)) S1x1x16.size (k0_off4_inb kk k)).toLoadRect fr (ix3 (0 : Fin 1) (0 : Fin 1) l')) rfl ?_
        refine (congrArg tree32 (funext fun k => ld_lane d L _ (0 : Fin 2) (32 * kk.val + k.val) 0 (by have := k2_lt kk; omega) (by omega) (k0_off4_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 0 + l'.val = k0_off5 kk 2 + 1 * l'.val
        rw [k0_off5_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (0 : Fin 2) (⟨kk.val, k2_lt kk⟩ : Fin 4) (⟨16 * 0 + l.val, by omega⟩ : Fin 128)) ∈ (Rect.unit (s := S2x4x128) (k0_off5 kk) S1x1x16.size (k0_off5_inb kk)).set
        rw [Rect.mem_set_unit, k0_off5_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (0 : Fin 2) (⟨kk.val, k2_lt kk⟩ : Fin 4) (⟨16 * 1 + l.val, by omega⟩ : Fin 128)) ∈ (Rect.unit (s := S2x4x128) (k0_off7 kk) S1x1x16.size (k0_off7_inb kk)).set
        rw [Rect.mem_set_unit, k0_off7_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (0 : Fin 2) (⟨kk.val, k2_lt kk⟩ : Fin 4) (⟨16 * 2 + l.val, by omega⟩ : Fin 128)) ∈ (Rect.unit (s := S2x4x128) (k0_off9 kk) S1x1x16.size (k0_off9_inb kk)).set
        rw [Rect.mem_set_unit, k0_off9_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (0 : Fin 2) (⟨kk.val, k2_lt kk⟩ : Fin 4) (⟨16 * 3 + l.val, by omega⟩ : Fin 128)) ∈ (Rect.unit (s := S2x4x128) (k0_off11 kk) S1x1x16.size (k0_off11_inb kk)).set
        rw [Rect.mem_set_unit, k0_off11_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (0 : Fin 2) (⟨kk.val, k2_lt kk⟩ : Fin 4) (⟨16 * 4 + l.val, by omega⟩ : Fin 128)) ∈ (Rect.unit (s := S2x4x128) (k0_off13 kk) S1x1x16.size (k0_off13_inb kk)).set
        rw [Rect.mem_set_unit, k0_off13_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (0 : Fin 2) (⟨kk.val, k2_lt kk⟩ : Fin 4) (⟨16 * 5 + l.val, by omega⟩ : Fin 128)) ∈ (Rect.unit (s := S2x4x128) (k0_off15 kk) S1x1x16.size (k0_off15_inb kk)).set
        rw [Rect.mem_set_unit, k0_off15_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (0 : Fin 2) (⟨kk.val, k2_lt kk⟩ : Fin 4) (⟨16 * 6 + l.val, by omega⟩ : Fin 128)) ∈ (Rect.unit (s := S2x4x128) (k0_off17 kk) S1x1x16.size (k0_off17_inb kk)).set
        rw [Rect.mem_set_unit, k0_off17_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (0 : Fin 2) (⟨kk.val, k2_lt kk⟩ : Fin 4) (⟨16 * 7 + l.val, by omega⟩ : Fin 128)) ∈ (Rect.unit (s := S2x4x128) (k0_off19 kk) S1x1x16.size (k0_off19_inb kk)).set
        rw [Rect.mem_set_unit, k0_off19_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc0_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k0_off19 kk) S1x1x16.size (k0_off19_inb kk)).set := hm
      rw [Rect.mem_set_unit, k0_off19_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 6
      intro hm
      have hm' : y ∈ (Rect.unit (s := S2x4x128) (k0_off17 kk) S1x1x16.size (k0_off17_inb kk)).set := hm
      rw [Rect.mem_set_unit, k0_off17_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 5
      intro hm
      have hm' : y ∈ (Rect.unit (s := S2x4x128) (k0_off15 kk) S1x1x16.size (k0_off15_inb kk)).set := hm
      rw [Rect.mem_set_unit, k0_off15_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 4
      intro hm
      have hm' : y ∈ (Rect.unit (s := S2x4x128) (k0_off13 kk) S1x1x16.size (k0_off13_inb kk)).set := hm
      rw [Rect.mem_set_unit, k0_off13_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 3
      intro hm
      have hm' : y ∈ (Rect.unit (s := S2x4x128) (k0_off11 kk) S1x1x16.size (k0_off11_inb kk)).set := hm
      rw [Rect.mem_set_unit, k0_off11_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 2
      intro hm
      have hm' : y ∈ (Rect.unit (s := S2x4x128) (k0_off9 kk) S1x1x16.size (k0_off9_inb kk)).set := hm
      rw [Rect.mem_set_unit, k0_off9_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 1
      intro hm
      have hm' : y ∈ (Rect.unit (s := S2x4x128) (k0_off7 kk) S1x1x16.size (k0_off7_inb kk)).set := hm
      rw [Rect.mem_set_unit, k0_off7_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 0
      intro hm
      have hm' : y ∈ (Rect.unit (s := S2x4x128) (k0_off5 kk) S1x1x16.size (k0_off5_inb kk)).set := hm
      rw [Rect.mem_set_unit, k0_off5_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩

set_option maxHeartbeats 4000000 in
/-- Trip `kk` of slot 1's inner loop: the row scratch is only read; the output scratch ends with row `kk` of
    slot 1 at the trees of the 32 gathered rows, lane by lane, and is unchanged off that row.  (The contents are read
    through the whole buffer's view, `View.read … f = f`.) -/
theorem inner_trip1 (k : Fin k0_t1_loop.trips) (kk : Fin k0_t3_loop.trips)
    (fr : Buf (Elt F) ((V d (cV L) (jV L)).loc cc0_scratch1)) (fob : Buf (Elt F) ((V d (cV L) (jV L)).loc cc0_scratch2))
    (v2 : BitVec 32) (arg11 : BitVec 32) :
    iprop(((rwV).view.loc (V d (cV L) (jV L)) ↦[Finset.univ \ (rwK0).view.set]{fullShare} fr)
      ∗ ((obV).view.loc (V d (cV L) (jV L)) ↦[Finset.univ \ (obK0).view.set]{fullShare} fob))
      ⊢ (wp frame (wpE (defs₀ (F := F)) 𝒱₀ (V d (cV L) (jV L)) none) Set.univ
          (k0_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k arg11 kk ())
          fun _ => iprop(((rwV).view.loc (V d (cV L) (jV L)) ↦[Finset.univ \ (rwK0).view.set]{fullShare} fr)
            ∗ ∃ fob'' : Buf (Elt F) ((V d (cV L) (jV L)).loc cc0_scratch2), ((obV).view.loc (V d (cV L) (jV L)) ↦[Finset.univ \ (obK0).view.set]{fullShare} fob'')
              ∗ ⌜(∀ (g : Fin 8) (l : Fin 16), View.read (Elt F) (Memref.whole cc0_scratch2).view fob'' (ix3 (1 : Fin 2) (⟨kk.val, k3_lt kk⟩ : Fin 4) (⟨16 * g.val + l.val, by omega⟩ : Fin 128))
                    = scrSum d L (1 : Fin 2) fr kk.val (k3_lt kk) (ix3 (1 : Fin 2) (⟨kk.val, k3_lt kk⟩ : Fin 4) (⟨16 * g.val + l.val, by omega⟩ : Fin 128)))
                ∧ (∀ y : S2x4x128.Idx, ¬((y 0).val = 1 ∧ (y 1).val = kk.val) →
                    View.read (Elt F) (Memref.whole cc0_scratch2).view fob'' y = View.read (Elt F) (Memref.whole cc0_scratch2).view fob y)⌝) : sProp 𝕄) := by
  iintro ⟨Hrw, Hob⟩
  unfold k0_t3_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc0_scratch2).view fob (scrSum d L (1 : Fin 2) fr kk.val (k3_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (1 : Fin 2) fr kk.val (k3_lt kk) ((Rect.unit (s := S2x4x128) (k0_off38 kk) S1x1x16.size (k0_off38_inb kk)).emb (ix3 (0 : Fin 1) (0 : Fin 1) l'))
        simp only [Cert.Proof.KB.k0_pay570_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off37 kk (BitVec.ofNat 32 k.val)) S1x1x16.size (k0_off37_inb kk k)).toLoadRect fr (ix3 (0 : Fin 1) (0 : Fin 1) l')) rfl ?_
        refine (congrArg tree32 (funext fun k => ld_lane d L _ (1 : Fin 2) (32 * kk.val + k.val) 112 (by have := k3_lt kk; omega) (by omega) (k0_off37_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 112 + l'.val = k0_off38 kk 2 + 1 * l'.val
        rw [k0_off38_eq]
        show 112 + l'.val = 112 + 1 * l'.val
        omega
      · -- lane group 6: lanes 96 … 111
        intro x
        obtain ⟨l', rfl⟩ := exists_lane x
        show _ = scrSum d L (1 : Fin 2) fr kk.val (k3_lt kk) ((Rect.unit (s := S2x4x128) (k0_off36 kk) S1x1x16.size (k0_off36_inb kk)).emb (ix3 (0 : Fin 1) (0 : Fin 1) l'))
        simp only [Cert.Proof.KB.k0_pay525_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off35 kk (BitVec.ofNat 32 k.val)) S1x1x16.size (k0_off35_inb kk k)).toLoadRect fr (ix3 (0 : Fin 1) (0 : Fin 1) l')) rfl ?_
        refine (congrArg tree32 (funext fun k => ld_lane d L _ (1 : Fin 2) (32 * kk.val + k.val) 96 (by have := k3_lt kk; omega) (by omega) (k0_off35_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 96 + l'.val = k0_off36 kk 2 + 1 * l'.val
        rw [k0_off36_eq]
        show 96 + l'.val = 96 + 1 * l'.val
        omega
      · -- lane group 5: lanes 80 … 95
        intro x
        obtain ⟨l', rfl⟩ := exists_lane x
        show _ = scrSum d L (1 : Fin 2) fr kk.val (k3_lt kk) ((Rect.unit (s := S2x4x128) (k0_off34 kk) S1x1x16.size (k0_off34_inb kk)).emb (ix3 (0 : Fin 1) (0 : Fin 1) l'))
        simp only [Cert.Proof.KB.k0_pay481_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off33 kk (BitVec.ofNat 32 k.val)) S1x1x16.size (k0_off33_inb kk k)).toLoadRect fr (ix3 (0 : Fin 1) (0 : Fin 1) l')) rfl ?_
        refine (congrArg tree32 (funext fun k => ld_lane d L _ (1 : Fin 2) (32 * kk.val + k.val) 80 (by have := k3_lt kk; omega) (by omega) (k0_off33_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 80 + l'.val = k0_off34 kk 2 + 1 * l'.val
        rw [k0_off34_eq]
        show 80 + l'.val = 80 + 1 * l'.val
        omega
      · -- lane group 4: lanes 64 … 79
        intro x
        obtain ⟨l', rfl⟩ := exists_lane x
        show _ = scrSum d L (1 : Fin 2) fr kk.val (k3_lt kk) ((Rect.unit (s := S2x4x128) (k0_off32 kk) S1x1x16.size (k0_off32_inb kk)).emb (ix3 (0 : Fin 1) (0 : Fin 1) l'))
        simp only [Cert.Proof.KB.k0_pay442_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off31 kk (BitVec.ofNat 32 k.val)) S1x1x16.size (k0_off31_inb kk k)).toLoadRect fr (ix3 (0 : Fin 1) (0 : Fin 1) l')) rfl ?_
        refine (congrArg tree32 (funext fun k => ld_lane d L _ (1 : Fin 2) (32 * kk.val + k.val) 64 (by have := k3_lt kk; omega) (by omega) (k0_off31_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 64 + l'.val = k0_off32 kk 2 + 1 * l'.val
        rw [k0_off32_eq]
        show 64 + l'.val = 64 + 1 * l'.val
        omega
      · -- lane group 3: lanes 48 … 63
        intro x
        obtain ⟨l', rfl⟩ := exists_lane x
        show _ = scrSum d L (1 : Fin 2) fr kk.val (k3_lt kk) ((Rect.unit (s := S2x4x128) (k0_off30 kk) S1x1x16.size (k0_off30_inb kk)).emb (ix3 (0 : Fin 1) (0 : Fin 1) l'))
        simp only [Cert.Proof.KB.k0_pay408_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off29 kk (BitVec.ofNat 32 k.val)) S1x1x16.size (k0_off29_inb kk k)).toLoadRect fr (ix3 (0 : Fin 1) (0 : Fin 1) l')) rfl ?_
        refine (congrArg tree32 (funext fun k => ld_lane d L _ (1 : Fin 2) (32 * kk.val + k.val) 48 (by have := k3_lt kk; omega) (by omega) (k0_off29_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 48 + l'.val = k0_off30 kk 2 + 1 * l'.val
        rw [k0_off30_eq]
        show 48 + l'.val = 48 + 1 * l'.val
        omega
      · -- lane group 2: lanes 32 … 47
        intro x
        obtain ⟨l', rfl⟩ := exists_lane x
        show _ = scrSum d L (1 : Fin 2) fr kk.val (k3_lt kk) ((Rect.unit (s := S2x4x128) (k0_off28 kk) S1x1x16.size (k0_off28_inb kk)).emb (ix3 (0 : Fin 1) (0 : Fin 1) l'))
        simp only [Cert.Proof.KB.k0_pay376_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off27 kk (BitVec.ofNat 32 k.val)) S1x1x16.size (k0_off27_inb kk k)).toLoadRect fr (ix3 (0 : Fin 1) (0 : Fin 1) l')) rfl ?_
        refine (congrArg tree32 (funext fun k => ld_lane d L _ (1 : Fin 2) (32 * kk.val + k.val) 32 (by have := k3_lt kk; omega) (by omega) (k0_off27_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 32 + l'.val = k0_off28 kk 2 + 1 * l'.val
        rw [k0_off28_eq]
        show 32 + l'.val = 32 + 1 * l'.val
        omega
      · -- lane group 1: lanes 16 … 31
        intro x
        obtain ⟨l', rfl⟩ := exists_lane x
        show _ = scrSum d L (1 : Fin 2) fr kk.val (k3_lt kk) ((Rect.unit (s := S2x4x128) (k0_off26 kk) S1x1x16.size (k0_off26_inb kk)).emb (ix3 (0 : Fin 1) (0 : Fin 1) l'))
        simp only [Cert.Proof.KB.k0_pay345_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off25 kk (BitVec.ofNat 32 k.val)) S1x1x16.size (k0_off25_inb kk k)).toLoadRect fr (ix3 (0 : Fin 1) (0 : Fin 1) l')) rfl ?_
        refine (congrArg tree32 (funext fun k => ld_lane d L _ (1 : Fin 2) (32 * kk.val + k.val) 16 (by have := k3_lt kk; omega) (by omega) (k0_off25_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 16 + l'.val = k0_off26 kk 2 + 1 * l'.val
        rw [k0_off26_eq]
        show 16 + l'.val = 16 + 1 * l'.val
        omega
      · -- lane group 0: lanes 0 … 15
        intro x
        obtain ⟨l', rfl⟩ := exists_lane x
        show _ = scrSum d L (1 : Fin 2) fr kk.val (k3_lt kk) ((Rect.unit (s := S2x4x128) (k0_off24 kk) S1x1x16.size (k0_off24_inb kk)).emb (ix3 (0 : Fin 1) (0 : Fin 1) l'))
        simp only [Cert.Proof.KB.k0_pay314_lane]
        sl_unfold_run_names
        simp only [Cert.Proof.KB.k0_pay1_lane, Cert.Proof.KB.k0_pay2_lane, Cert.Proof.KB.k0_pay3_lane, Cert.Proof.KB.k0_pay4_lane, Cert.Proof.KB.k0_pay5_lane, Cert.Proof.KB.k0_pay6_lane, Cert.Proof.KB.k0_pay7_lane, Cert.Proof.KB.k0_pay8_lane, Cert.Proof.KB.k0_pay9_lane, Cert.Proof.KB.k0_pay10_lane, Cert.Proof.KB.k0_pay11_lane, Cert.Proof.KB.k0_pay12_lane, Cert.Proof.KB.k0_pay13_lane, Cert.Proof.KB.k0_pay14_lane, Cert.Proof.KB.k0_pay15_lane, Cert.Proof.KB.k0_pay16_lane, Cert.Proof.KB.k0_pay17_lane, Cert.Proof.KB.k0_pay18_lane, Cert.Proof.KB.k0_pay19_lane, Cert.Proof.KB.k0_pay20_lane, Cert.Proof.KB.k0_pay21_lane, Cert.Proof.KB.k0_pay22_lane, Cert.Proof.KB.k0_pay23_lane, Cert.Proof.KB.k0_pay24_lane, Cert.Proof.KB.k0_pay25_lane, Cert.Proof.KB.k0_pay26_lane, Cert.Proof.KB.k0_pay27_lane, Cert.Proof.KB.k0_pay28_lane, Cert.Proof.KB.k0_pay29_lane, Cert.Proof.KB.k0_pay30_lane, Cert.Proof.KB.k0_pay31_lane, Cert.Proof.KB.k0_pay32_lane, Cert.Proof.KB.k0_pay33_lane, Cert.Proof.KB.k0_pay34_lane, Cert.Proof.KB.k0_pay35_lane, Cert.Proof.KB.k0_pay36_lane, Cert.Proof.KB.k0_pay37_lane, Cert.Proof.KB.k0_pay38_lane, Cert.Proof.KB.k0_pay39_lane, Cert.Proof.KB.k0_pay40_lane, Cert.Proof.KB.k0_pay41_lane, Cert.Proof.KB.k0_pay42_lane, Cert.Proof.KB.k0_pay43_lane, Cert.Proof.KB.k0_pay44_lane, Cert.Proof.KB.k0_pay45_lane, Cert.Proof.KB.k0_pay46_lane, Cert.Proof.KB.k0_pay47_lane, Cert.Proof.KB.k0_pay48_lane, Cert.Proof.KB.k0_pay49_lane, Cert.Proof.KB.k0_pay50_lane, Cert.Proof.KB.k0_pay51_lane, Cert.Proof.KB.k0_pay52_lane, Cert.Proof.KB.k0_pay53_lane, Cert.Proof.KB.k0_pay54_lane, Cert.Proof.KB.k0_pay55_lane, Cert.Proof.KB.k0_pay56_lane, Cert.Proof.KB.k0_pay57_lane, Cert.Proof.KB.k0_pay58_lane, Cert.Proof.KB.k0_pay59_lane, Cert.Proof.KB.k0_pay60_lane, Cert.Proof.KB.k0_pay61_lane, Cert.Proof.KB.k0_pay62_lane, Cert.Proof.KB.k0_pay63_lane, Cert.Proof.KB.k0_pay64_lane, Cert.Proof.KB.k0_pay65_lane, Cert.Proof.KB.k0_pay66_lane, Cert.Proof.KB.k0_pay67_lane, Cert.Proof.KB.k0_pay68_lane, Cert.Proof.KB.k0_pay69_lane, Cert.Proof.KB.k0_pay70_lane, Cert.Proof.KB.k0_pay71_lane, Cert.Proof.KB.k0_pay72_lane, Cert.Proof.KB.k0_pay73_lane, Cert.Proof.KB.k0_pay74_lane, Cert.Proof.KB.k0_pay75_lane, Cert.Proof.KB.k0_pay76_lane, Cert.Proof.KB.k0_pay77_lane, Cert.Proof.KB.k0_pay78_lane, Cert.Proof.KB.k0_pay79_lane, Cert.Proof.KB.k0_pay80_lane, Cert.Proof.KB.k0_pay81_lane, Cert.Proof.KB.k0_pay82_lane, Cert.Proof.KB.k0_pay83_lane, Cert.Proof.KB.k0_pay84_lane, Cert.Proof.KB.k0_pay85_lane, Cert.Proof.KB.k0_pay86_lane, Cert.Proof.KB.k0_pay87_lane, Cert.Proof.KB.k0_pay88_lane, Cert.Proof.KB.k0_pay89_lane, Cert.Proof.KB.k0_pay90_lane, Cert.Proof.KB.k0_pay91_lane, Cert.Proof.KB.k0_pay92_lane, Cert.Proof.KB.k0_pay93_lane, Cert.Proof.KB.k0_pay94_lane, Cert.Proof.KB.k0_pay95_lane, Cert.Proof.KB.k0_pay96_lane, Cert.Proof.KB.k0_pay97_lane, Cert.Proof.KB.k0_pay98_lane, Cert.Proof.KB.k0_pay99_lane, Cert.Proof.KB.k0_pay100_lane, Cert.Proof.KB.k0_pay101_lane, Cert.Proof.KB.k0_pay102_lane, Cert.Proof.KB.k0_pay103_lane, Cert.Proof.KB.k0_pay104_lane, Cert.Proof.KB.k0_pay105_lane, Cert.Proof.KB.k0_pay106_lane, Cert.Proof.KB.k0_pay107_lane, Cert.Proof.KB.k0_pay108_lane, Cert.Proof.KB.k0_pay109_lane, Cert.Proof.KB.k0_pay110_lane, Cert.Proof.KB.k0_pay111_lane, Cert.Proof.KB.k0_pay112_lane, Cert.Proof.KB.k0_pay113_lane, Cert.Proof.KB.k0_pay114_lane, Cert.Proof.KB.k0_pay115_lane, Cert.Proof.KB.k0_pay116_lane, Cert.Proof.KB.k0_pay117_lane, Cert.Proof.KB.k0_pay118_lane, Cert.Proof.KB.k0_pay119_lane, Cert.Proof.KB.k0_pay120_lane, Cert.Proof.KB.k0_pay121_lane, Cert.Proof.KB.k0_pay122_lane, Cert.Proof.KB.k0_pay123_lane, Cert.Proof.KB.k0_pay124_lane, Cert.Proof.KB.k0_pay125_lane, Cert.Proof.KB.k0_pay126_lane, Cert.Proof.KB.k0_pay127_lane, Cert.Proof.KB.k0_pay128_lane, Cert.Proof.KB.k0_pay129_lane, Cert.Proof.KB.k0_pay130_lane, Cert.Proof.KB.k0_pay131_lane, Cert.Proof.KB.k0_pay132_lane, Cert.Proof.KB.k0_pay133_lane, Cert.Proof.KB.k0_pay134_lane, Cert.Proof.KB.k0_pay135_lane, Cert.Proof.KB.k0_pay136_lane, Cert.Proof.KB.k0_pay137_lane, Cert.Proof.KB.k0_pay138_lane, Cert.Proof.KB.k0_pay139_lane, Cert.Proof.KB.k0_pay140_lane, Cert.Proof.KB.k0_pay141_lane, Cert.Proof.KB.k0_pay142_lane, Cert.Proof.KB.k0_pay143_lane, Cert.Proof.KB.k0_pay144_lane, Cert.Proof.KB.k0_pay145_lane, Cert.Proof.KB.k0_pay146_lane, Cert.Proof.KB.k0_pay147_lane, Cert.Proof.KB.k0_pay148_lane, Cert.Proof.KB.k0_pay149_lane, Cert.Proof.KB.k0_pay150_lane, Cert.Proof.KB.k0_pay151_lane, Cert.Proof.KB.k0_pay152_lane, Cert.Proof.KB.k0_pay153_lane, Cert.Proof.KB.k0_pay154_lane, Cert.Proof.KB.k0_pay155_lane, Cert.Proof.KB.k0_pay156_lane, Cert.Proof.KB.k0_pay157_lane, Cert.Proof.KB.k0_pay158_lane, Cert.Proof.KB.k0_pay159_lane, Cert.Proof.KB.k0_pay160_lane, Cert.Proof.KB.k0_pay161_lane, Cert.Proof.KB.k0_pay162_lane, Cert.Proof.KB.k0_pay163_lane, Cert.Proof.KB.k0_pay164_lane, Cert.Proof.KB.k0_pay165_lane, Cert.Proof.KB.k0_pay166_lane, Cert.Proof.KB.k0_pay167_lane, Cert.Proof.KB.k0_pay168_lane, Cert.Proof.KB.k0_pay169_lane, Cert.Proof.KB.k0_pay170_lane, Cert.Proof.KB.k0_pay171_lane, Cert.Proof.KB.k0_pay172_lane, Cert.Proof.KB.k0_pay173_lane, Cert.Proof.KB.k0_pay174_lane, Cert.Proof.KB.k0_pay175_lane, Cert.Proof.KB.k0_pay176_lane, Cert.Proof.KB.k0_pay177_lane, Cert.Proof.KB.k0_pay178_lane, Cert.Proof.KB.k0_pay179_lane, Cert.Proof.KB.k0_pay180_lane, Cert.Proof.KB.k0_pay181_lane, Cert.Proof.KB.k0_pay182_lane, Cert.Proof.KB.k0_pay183_lane, Cert.Proof.KB.k0_pay184_lane, Cert.Proof.KB.k0_pay185_lane, Cert.Proof.KB.k0_pay186_lane, Cert.Proof.KB.k0_pay187_lane, Cert.Proof.KB.k0_pay188_lane, Cert.Proof.KB.k0_pay189_lane, Cert.Proof.KB.k0_pay190_lane, Cert.Proof.KB.k0_pay191_lane, Cert.Proof.KB.k0_pay192_lane, Cert.Proof.KB.k0_pay193_lane, Cert.Proof.KB.k0_pay194_lane, Cert.Proof.KB.k0_pay195_lane, Cert.Proof.KB.k0_pay196_lane, Cert.Proof.KB.k0_pay197_lane, Cert.Proof.KB.k0_pay198_lane, Cert.Proof.KB.k0_pay199_lane, Cert.Proof.KB.k0_pay200_lane, Cert.Proof.KB.k0_pay201_lane, Cert.Proof.KB.k0_pay202_lane, Cert.Proof.KB.k0_pay203_lane, Cert.Proof.KB.k0_pay204_lane, Cert.Proof.KB.k0_pay205_lane, Cert.Proof.KB.k0_pay206_lane, Cert.Proof.KB.k0_pay207_lane, Cert.Proof.KB.k0_pay208_lane, Cert.Proof.KB.k0_pay209_lane, Cert.Proof.KB.k0_pay210_lane, Cert.Proof.KB.k0_pay211_lane, Cert.Proof.KB.k0_pay212_lane, Cert.Proof.KB.k0_pay213_lane, Cert.Proof.KB.k0_pay214_lane, Cert.Proof.KB.k0_pay215_lane, Cert.Proof.KB.k0_pay216_lane, Cert.Proof.KB.k0_pay217_lane, Cert.Proof.KB.k0_pay218_lane, Cert.Proof.KB.k0_pay219_lane, Cert.Proof.KB.k0_pay220_lane, Cert.Proof.KB.k0_pay221_lane, Cert.Proof.KB.k0_pay222_lane, Cert.Proof.KB.k0_pay223_lane, Cert.Proof.KB.k0_pay224_lane, Cert.Proof.KB.k0_pay225_lane, Cert.Proof.KB.k0_pay226_lane, Cert.Proof.KB.k0_pay227_lane, Cert.Proof.KB.k0_pay228_lane, Cert.Proof.KB.k0_pay229_lane, Cert.Proof.KB.k0_pay230_lane, Cert.Proof.KB.k0_pay231_lane, Cert.Proof.KB.k0_pay232_lane, Cert.Proof.KB.k0_pay233_lane, Cert.Proof.KB.k0_pay234_lane, Cert.Proof.KB.k0_pay235_lane, Cert.Proof.KB.k0_pay236_lane, Cert.Proof.KB.k0_pay237_lane, Cert.Proof.KB.k0_pay238_lane, Cert.Proof.KB.k0_pay239_lane, Cert.Proof.KB.k0_pay240_lane, Cert.Proof.KB.k0_pay241_lane, Cert.Proof.KB.k0_pay242_lane, Cert.Proof.KB.k0_pay243_lane, Cert.Proof.KB.k0_pay244_lane, Cert.Proof.KB.k0_pay245_lane, Cert.Proof.KB.k0_pay246_lane, Cert.Proof.KB.k0_pay247_lane, Cert.Proof.KB.k0_pay248_lane, Cert.Proof.KB.k0_pay249_lane, Cert.Proof.KB.k0_pay250_lane, Cert.Proof.KB.k0_pay251_lane, Cert.Proof.KB.k0_pay252_lane, Cert.Proof.KB.k0_pay253_lane, Cert.Proof.KB.k0_pay254_lane, Cert.Proof.KB.k0_pay255_lane, Cert.Proof.KB.k0_pay256_lane, Cert.Proof.KB.k0_pay257_lane, Cert.Proof.KB.k0_pay258_lane, Cert.Proof.KB.k0_pay259_lane, Cert.Proof.KB.k0_pay260_lane, Cert.Proof.KB.k0_pay261_lane, Cert.Proof.KB.k0_pay262_lane, Cert.Proof.KB.k0_pay263_lane, Cert.Proof.KB.k0_pay264_lane, Cert.Proof.KB.k0_pay265_lane, Cert.Proof.KB.k0_pay266_lane, Cert.Proof.KB.k0_pay267_lane, Cert.Proof.KB.k0_pay268_lane, Cert.Proof.KB.k0_pay269_lane, Cert.Proof.KB.k0_pay270_lane, Cert.Proof.KB.k0_pay271_lane, Cert.Proof.KB.k0_pay272_lane, Cert.Proof.KB.k0_pay273_lane, Cert.Proof.KB.k0_pay274_lane, Cert.Proof.KB.k0_pay275_lane, Cert.Proof.KB.k0_pay276_lane, Cert.Proof.KB.k0_pay277_lane, Cert.Proof.KB.k0_pay278_lane, Cert.Proof.KB.k0_pay279_lane, Cert.Proof.KB.k0_pay280_lane, Cert.Proof.KB.k0_pay281_lane, Cert.Proof.KB.k0_pay282_lane, Cert.Proof.KB.k0_pay283_lane, Cert.Proof.KB.k0_pay284_lane, Cert.Proof.KB.k0_pay285_lane, Cert.Proof.KB.k0_pay286_lane, Cert.Proof.KB.k0_pay287_lane, Cert.Proof.KB.k0_pay288_lane, Cert.Proof.KB.k0_pay289_lane, Cert.Proof.KB.k0_pay290_lane, Cert.Proof.KB.k0_pay291_lane, Cert.Proof.KB.k0_pay292_lane, Cert.Proof.KB.k0_pay293_lane, Cert.Proof.KB.k0_pay294_lane, Cert.Proof.KB.k0_pay295_lane, Cert.Proof.KB.k0_pay296_lane, Cert.Proof.KB.k0_pay297_lane, Cert.Proof.KB.k0_pay298_lane, Cert.Proof.KB.k0_pay299_lane, Cert.Proof.KB.k0_pay300_lane, Cert.Proof.KB.k0_pay301_lane, Cert.Proof.KB.k0_pay302_lane, Cert.Proof.KB.k0_pay303_lane, Cert.Proof.KB.k0_pay304_lane, Cert.Proof.KB.k0_pay305_lane, Cert.Proof.KB.k0_pay306_lane, Cert.Proof.KB.k0_pay307_lane, Cert.Proof.KB.k0_pay308_lane, Cert.Proof.KB.k0_pay309_lane, Cert.Proof.KB.k0_pay310_lane, Cert.Proof.KB.k0_pay311_lane, Cert.Proof.KB.k0_pay312_lane, Cert.Proof.KB.k0_pay313_lane, Cert.Proof.KB.k0_pay314_lane, Cert.Proof.KB.k0_pay315_lane, Cert.Proof.KB.k0_pay316_lane, Cert.Proof.KB.k0_pay317_lane, Cert.Proof.KB.k0_pay318_lane, Cert.Proof.KB.k0_pay319_lane, Cert.Proof.KB.k0_pay320_lane, Cert.Proof.KB.k0_pay321_lane, Cert.Proof.KB.k0_pay322_lane, Cert.Proof.KB.k0_pay323_lane, Cert.Proof.KB.k0_pay324_lane, Cert.Proof.KB.k0_pay325_lane, Cert.Proof.KB.k0_pay326_lane, Cert.Proof.KB.k0_pay327_lane, Cert.Proof.KB.k0_pay328_lane, Cert.Proof.KB.k0_pay329_lane, Cert.Proof.KB.k0_pay330_lane, Cert.Proof.KB.k0_pay331_lane, Cert.Proof.KB.k0_pay332_lane, Cert.Proof.KB.k0_pay333_lane, Cert.Proof.KB.k0_pay334_lane, Cert.Proof.KB.k0_pay335_lane, Cert.Proof.KB.k0_pay336_lane, Cert.Proof.KB.k0_pay337_lane, Cert.Proof.KB.k0_pay338_lane, Cert.Proof.KB.k0_pay339_lane, Cert.Proof.KB.k0_pay340_lane, Cert.Proof.KB.k0_pay341_lane, Cert.Proof.KB.k0_pay342_lane, Cert.Proof.KB.k0_pay343_lane, Cert.Proof.KB.k0_pay344_lane, Cert.Proof.KB.k0_pay345_lane, Cert.Proof.KB.k0_pay346_lane, Cert.Proof.KB.k0_pay347_lane, Cert.Proof.KB.k0_pay348_lane, Cert.Proof.KB.k0_pay349_lane, Cert.Proof.KB.k0_pay350_lane, Cert.Proof.KB.k0_pay351_lane, Cert.Proof.KB.k0_pay352_lane, Cert.Proof.KB.k0_pay353_lane, Cert.Proof.KB.k0_pay354_lane, Cert.Proof.KB.k0_pay355_lane, Cert.Proof.KB.k0_pay356_lane, Cert.Proof.KB.k0_pay357_lane, Cert.Proof.KB.k0_pay358_lane, Cert.Proof.KB.k0_pay359_lane, Cert.Proof.KB.k0_pay360_lane, Cert.Proof.KB.k0_pay361_lane, Cert.Proof.KB.k0_pay362_lane, Cert.Proof.KB.k0_pay363_lane, Cert.Proof.KB.k0_pay364_lane, Cert.Proof.KB.k0_pay365_lane, Cert.Proof.KB.k0_pay366_lane, Cert.Proof.KB.k0_pay367_lane, Cert.Proof.KB.k0_pay368_lane, Cert.Proof.KB.k0_pay369_lane, Cert.Proof.KB.k0_pay370_lane, Cert.Proof.KB.k0_pay371_lane, Cert.Proof.KB.k0_pay372_lane, Cert.Proof.KB.k0_pay373_lane, Cert.Proof.KB.k0_pay374_lane, Cert.Proof.KB.k0_pay375_lane, Cert.Proof.KB.k0_pay376_lane, Cert.Proof.KB.k0_pay377_lane, Cert.Proof.KB.k0_pay378_lane, Cert.Proof.KB.k0_pay379_lane, Cert.Proof.KB.k0_pay380_lane, Cert.Proof.KB.k0_pay381_lane, Cert.Proof.KB.k0_pay382_lane, Cert.Proof.KB.k0_pay383_lane, Cert.Proof.KB.k0_pay384_lane, Cert.Proof.KB.k0_pay385_lane, Cert.Proof.KB.k0_pay386_lane, Cert.Proof.KB.k0_pay387_lane, Cert.Proof.KB.k0_pay388_lane, Cert.Proof.KB.k0_pay389_lane, Cert.Proof.KB.k0_pay390_lane, Cert.Proof.KB.k0_pay391_lane, Cert.Proof.KB.k0_pay392_lane, Cert.Proof.KB.k0_pay393_lane, Cert.Proof.KB.k0_pay394_lane, Cert.Proof.KB.k0_pay395_lane, Cert.Proof.KB.k0_pay396_lane, Cert.Proof.KB.k0_pay397_lane, Cert.Proof.KB.k0_pay398_lane, Cert.Proof.KB.k0_pay399_lane, Cert.Proof.KB.k0_pay400_lane, Cert.Proof.KB.k0_pay401_lane, Cert.Proof.KB.k0_pay402_lane, Cert.Proof.KB.k0_pay403_lane, Cert.Proof.KB.k0_pay404_lane, Cert.Proof.KB.k0_pay405_lane, Cert.Proof.KB.k0_pay406_lane, Cert.Proof.KB.k0_pay407_lane, Cert.Proof.KB.k0_pay408_lane, Cert.Proof.KB.k0_pay409_lane, Cert.Proof.KB.k0_pay410_lane, Cert.Proof.KB.k0_pay411_lane, Cert.Proof.KB.k0_pay412_lane, Cert.Proof.KB.k0_pay413_lane, Cert.Proof.KB.k0_pay414_lane, Cert.Proof.KB.k0_pay415_lane, Cert.Proof.KB.k0_pay416_lane, Cert.Proof.KB.k0_pay417_lane, Cert.Proof.KB.k0_pay418_lane, Cert.Proof.KB.k0_pay419_lane, Cert.Proof.KB.k0_pay420_lane, Cert.Proof.KB.k0_pay421_lane, Cert.Proof.KB.k0_pay422_lane, Cert.Proof.KB.k0_pay423_lane, Cert.Proof.KB.k0_pay424_lane, Cert.Proof.KB.k0_pay425_lane, Cert.Proof.KB.k0_pay426_lane, Cert.Proof.KB.k0_pay427_lane, Cert.Proof.KB.k0_pay428_lane, Cert.Proof.KB.k0_pay429_lane, Cert.Proof.KB.k0_pay430_lane, Cert.Proof.KB.k0_pay431_lane, Cert.Proof.KB.k0_pay432_lane, Cert.Proof.KB.k0_pay433_lane, Cert.Proof.KB.k0_pay434_lane, Cert.Proof.KB.k0_pay435_lane, Cert.Proof.KB.k0_pay436_lane, Cert.Proof.KB.k0_pay437_lane, Cert.Proof.KB.k0_pay438_lane, Cert.Proof.KB.k0_pay439_lane, Cert.Proof.KB.k0_pay440_lane, Cert.Proof.KB.k0_pay441_lane, Cert.Proof.KB.k0_pay442_lane, Cert.Proof.KB.k0_pay443_lane, Cert.Proof.KB.k0_pay444_lane, Cert.Proof.KB.k0_pay445_lane, Cert.Proof.KB.k0_pay446_lane, Cert.Proof.KB.k0_pay447_lane, Cert.Proof.KB.k0_pay448_lane, Cert.Proof.KB.k0_pay449_lane, Cert.Proof.KB.k0_pay450_lane, Cert.Proof.KB.k0_pay451_lane, Cert.Proof.KB.k0_pay452_lane, Cert.Proof.KB.k0_pay453_lane, Cert.Proof.KB.k0_pay454_lane, Cert.Proof.KB.k0_pay455_lane, Cert.Proof.KB.k0_pay456_lane, Cert.Proof.KB.k0_pay457_lane, Cert.Proof.KB.k0_pay458_lane, Cert.Proof.KB.k0_pay459_lane, Cert.Proof.KB.k0_pay460_lane, Cert.Proof.KB.k0_pay461_lane, Cert.Proof.KB.k0_pay462_lane, Cert.Proof.KB.k0_pay463_lane, Cert.Proof.KB.k0_pay464_lane, Cert.Proof.KB.k0_pay465_lane, Cert.Proof.KB.k0_pay466_lane, Cert.Proof.KB.k0_pay467_lane, Cert.Proof.KB.k0_pay468_lane, Cert.Proof.KB.k0_pay469_lane, Cert.Proof.KB.k0_pay470_lane, Cert.Proof.KB.k0_pay471_lane, Cert.Proof.KB.k0_pay472_lane, Cert.Proof.KB.k0_pay473_lane, Cert.Proof.KB.k0_pay474_lane, Cert.Proof.KB.k0_pay475_lane, Cert.Proof.KB.k0_pay476_lane, Cert.Proof.KB.k0_pay477_lane, Cert.Proof.KB.k0_pay478_lane, Cert.Proof.KB.k0_pay479_lane, Cert.Proof.KB.k0_pay480_lane, Cert.Proof.KB.k0_pay481_lane, Cert.Proof.KB.k0_pay482_lane, Cert.Proof.KB.k0_pay483_lane, Cert.Proof.KB.k0_pay484_lane, Cert.Proof.KB.k0_pay485_lane, Cert.Proof.KB.k0_pay486_lane, Cert.Proof.KB.k0_pay487_lane, Cert.Proof.KB.k0_pay488_lane, Cert.Proof.KB.k0_pay489_lane, Cert.Proof.KB.k0_pay490_lane, Cert.Proof.KB.k0_pay491_lane, Cert.Proof.KB.k0_pay492_lane, Cert.Proof.KB.k0_pay493_lane, Cert.Proof.KB.k0_pay494_lane, Cert.Proof.KB.k0_pay495_lane, Cert.Proof.KB.k0_pay496_lane, Cert.Proof.KB.k0_pay497_lane, Cert.Proof.KB.k0_pay498_lane, Cert.Proof.KB.k0_pay499_lane, Cert.Proof.KB.k0_pay500_lane, Cert.Proof.KB.k0_pay501_lane, Cert.Proof.KB.k0_pay502_lane, Cert.Proof.KB.k0_pay503_lane, Cert.Proof.KB.k0_pay504_lane, Cert.Proof.KB.k0_pay505_lane, Cert.Proof.KB.k0_pay506_lane, Cert.Proof.KB.k0_pay507_lane, Cert.Proof.KB.k0_pay508_lane, Cert.Proof.KB.k0_pay509_lane, Cert.Proof.KB.k0_pay510_lane, Cert.Proof.KB.k0_pay511_lane, Cert.Proof.KB.k0_pay512_lane, Cert.Proof.KB.k0_pay513_lane, Cert.Proof.KB.k0_pay514_lane, Cert.Proof.KB.k0_pay515_lane, Cert.Proof.KB.k0_pay516_lane, Cert.Proof.KB.k0_pay517_lane, Cert.Proof.KB.k0_pay518_lane, Cert.Proof.KB.k0_pay519_lane, Cert.Proof.KB.k0_pay520_lane, Cert.Proof.KB.k0_pay521_lane, Cert.Proof.KB.k0_pay522_lane, Cert.Proof.KB.k0_pay523_lane, Cert.Proof.KB.k0_pay524_lane, Cert.Proof.KB.k0_pay525_lane, Cert.Proof.KB.k0_pay526_lane, Cert.Proof.KB.k0_pay527_lane, Cert.Proof.KB.k0_pay528_lane, Cert.Proof.KB.k0_pay529_lane, Cert.Proof.KB.k0_pay530_lane, Cert.Proof.KB.k0_pay531_lane, Cert.Proof.KB.k0_pay532_lane, Cert.Proof.KB.k0_pay533_lane, Cert.Proof.KB.k0_pay534_lane, Cert.Proof.KB.k0_pay535_lane, Cert.Proof.KB.k0_pay536_lane, Cert.Proof.KB.k0_pay537_lane, Cert.Proof.KB.k0_pay538_lane, Cert.Proof.KB.k0_pay539_lane, Cert.Proof.KB.k0_pay540_lane, Cert.Proof.KB.k0_pay541_lane, Cert.Proof.KB.k0_pay542_lane, Cert.Proof.KB.k0_pay543_lane, Cert.Proof.KB.k0_pay544_lane, Cert.Proof.KB.k0_pay545_lane, Cert.Proof.KB.k0_pay546_lane, Cert.Proof.KB.k0_pay547_lane, Cert.Proof.KB.k0_pay548_lane, Cert.Proof.KB.k0_pay549_lane, Cert.Proof.KB.k0_pay550_lane, Cert.Proof.KB.k0_pay551_lane, Cert.Proof.KB.k0_pay552_lane, Cert.Proof.KB.k0_pay553_lane, Cert.Proof.KB.k0_pay554_lane, Cert.Proof.KB.k0_pay555_lane, Cert.Proof.KB.k0_pay556_lane, Cert.Proof.KB.k0_pay557_lane, Cert.Proof.KB.k0_pay558_lane, Cert.Proof.KB.k0_pay559_lane, Cert.Proof.KB.k0_pay560_lane, Cert.Proof.KB.k0_pay561_lane, Cert.Proof.KB.k0_pay562_lane, Cert.Proof.KB.k0_pay563_lane, Cert.Proof.KB.k0_pay564_lane, Cert.Proof.KB.k0_pay565_lane, Cert.Proof.KB.k0_pay566_lane, Cert.Proof.KB.k0_pay567_lane, Cert.Proof.KB.k0_pay568_lane, Cert.Proof.KB.k0_pay569_lane, Cert.Proof.KB.k0_pay570_lane, Cert.Proof.KB.cast_16]
        refine Eq.trans (b := tree32 fun k : Fin 32 => View.readAt (Elt F) (Memref.whole cc0_scratch1).view
          (Rect.unit (s := S2x128x128) (k0_off23 kk (BitVec.ofNat 32 k.val)) S1x1x16.size (k0_off23_inb kk k)).toLoadRect fr (ix3 (0 : Fin 1) (0 : Fin 1) l')) rfl ?_
        refine (congrArg tree32 (funext fun k => ld_lane d L _ (1 : Fin 2) (32 * kk.val + k.val) 0 (by have := k3_lt kk; omega) (by omega) (k0_off23_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 0 + l'.val = k0_off24 kk 2 + 1 * l'.val
        rw [k0_off24_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (1 : Fin 2) (⟨kk.val, k3_lt kk⟩ : Fin 4) (⟨16 * 0 + l.val, by omega⟩ : Fin 128)) ∈ (Rect.unit (s := S2x4x128) (k0_off24 kk) S1x1x16.size (k0_off24_inb kk)).set
        rw [Rect.mem_set_unit, k0_off24_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (1 : Fin 2) (⟨kk.val, k3_lt kk⟩ : Fin 4) (⟨16 * 1 + l.val, by omega⟩ : Fin 128)) ∈ (Rect.unit (s := S2x4x128) (k0_off26 kk) S1x1x16.size (k0_off26_inb kk)).set
        rw [Rect.mem_set_unit, k0_off26_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (1 : Fin 2) (⟨kk.val, k3_lt kk⟩ : Fin 4) (⟨16 * 2 + l.val, by omega⟩ : Fin 128)) ∈ (Rect.unit (s := S2x4x128) (k0_off28 kk) S1x1x16.size (k0_off28_inb kk)).set
        rw [Rect.mem_set_unit, k0_off28_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (1 : Fin 2) (⟨kk.val, k3_lt kk⟩ : Fin 4) (⟨16 * 3 + l.val, by omega⟩ : Fin 128)) ∈ (Rect.unit (s := S2x4x128) (k0_off30 kk) S1x1x16.size (k0_off30_inb kk)).set
        rw [Rect.mem_set_unit, k0_off30_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (1 : Fin 2) (⟨kk.val, k3_lt kk⟩ : Fin 4) (⟨16 * 4 + l.val, by omega⟩ : Fin 128)) ∈ (Rect.unit (s := S2x4x128) (k0_off32 kk) S1x1x16.size (k0_off32_inb kk)).set
        rw [Rect.mem_set_unit, k0_off32_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (1 : Fin 2) (⟨kk.val, k3_lt kk⟩ : Fin 4) (⟨16 * 5 + l.val, by omega⟩ : Fin 128)) ∈ (Rect.unit (s := S2x4x128) (k0_off34 kk) S1x1x16.size (k0_off34_inb kk)).set
        rw [Rect.mem_set_unit, k0_off34_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (1 : Fin 2) (⟨kk.val, k3_lt kk⟩ : Fin 4) (⟨16 * 6 + l.val, by omega⟩ : Fin 128)) ∈ (Rect.unit (s := S2x4x128) (k0_off36 kk) S1x1x16.size (k0_off36_inb kk)).set
        rw [Rect.mem_set_unit, k0_off36_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (1 : Fin 2) (⟨kk.val, k3_lt kk⟩ : Fin 4) (⟨16 * 7 + l.val, by omega⟩ : Fin 128)) ∈ (Rect.unit (s := S2x4x128) (k0_off38 kk) S1x1x16.size (k0_off38_inb kk)).set
        rw [Rect.mem_set_unit, k0_off38_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc0_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k0_off38 kk) S1x1x16.size (k0_off38_inb kk)).set := hm
      rw [Rect.mem_set_unit, k0_off38_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 6
      intro hm
      have hm' : y ∈ (Rect.unit (s := S2x4x128) (k0_off36 kk) S1x1x16.size (k0_off36_inb kk)).set := hm
      rw [Rect.mem_set_unit, k0_off36_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 5
      intro hm
      have hm' : y ∈ (Rect.unit (s := S2x4x128) (k0_off34 kk) S1x1x16.size (k0_off34_inb kk)).set := hm
      rw [Rect.mem_set_unit, k0_off34_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 4
      intro hm
      have hm' : y ∈ (Rect.unit (s := S2x4x128) (k0_off32 kk) S1x1x16.size (k0_off32_inb kk)).set := hm
      rw [Rect.mem_set_unit, k0_off32_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 3
      intro hm
      have hm' : y ∈ (Rect.unit (s := S2x4x128) (k0_off30 kk) S1x1x16.size (k0_off30_inb kk)).set := hm
      rw [Rect.mem_set_unit, k0_off30_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 2
      intro hm
      have hm' : y ∈ (Rect.unit (s := S2x4x128) (k0_off28 kk) S1x1x16.size (k0_off28_inb kk)).set := hm
      rw [Rect.mem_set_unit, k0_off28_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 1
      intro hm
      have hm' : y ∈ (Rect.unit (s := S2x4x128) (k0_off26 kk) S1x1x16.size (k0_off26_inb kk)).set := hm
      rw [Rect.mem_set_unit, k0_off26_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 0
      intro hm
      have hm' : y ∈ (Rect.unit (s := S2x4x128) (k0_off24 kk) S1x1x16.size (k0_off24_inb kk)).set := hm
      rw [Rect.mem_set_unit, k0_off24_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩

end Inner

end Cert.Proof.TileB

end
-- ==== Proof.BodyInnerVK.lean ====
import proofs.«205366_g3083786518796_cont_9to1_852_38_alg».proof.Proof.BodyInnerK
import proofs.«205366_g3083786518796_cont_9to1_852_38_alg».proof.Proof.BodyInvVK
import Idealize.ShloMosaic.Lib.Writes
import Idealize.ShloMosaic.Lib.ValueIdx

noncomputable section

/-!
# The inner loops' trips against the invariant with the contents named

While a slot of the row scratch holds the 128 table rows its index chunk names, one trip of that slot's inner loop
adds one row to "the rows of the slot of the output scratch already summed hold the tree sums of their 32 table rows".
-/

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KB (tree32)

variable {F : FTy → Type}

variable [FloatOps F]
variable {U : Type} [URA U] [CountersIn U]

local notation "𝕄" => MT nD τ sig (HIx 3) (Elt F) ℕ U ℕ
local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

section Inner
variable (d : Dev nD) (L : grid0.Coords)
variable (Tx : S10000x128.Idx → Elt F .f32) (Ix : S32x10496.Idx → Elt F .i32)

/-- One trip of slot 0's inner loop against the invariant "the rows already summed hold their sums": the trip's row gets
    the tree of its 32 rows of the row scratch, which under `RowsOK` are the table rows the index chunk names. -/
theorem inner_region0 (n : ℕ) (h : Buf (Elt F) ((V d (cV L) (jV L)).loc cc0_scratch1)) (hr : RowsOK L Tx Ix (0 : Fin 2) n h)
    (k : Fin k0_t1_loop.trips) (v2 : BitVec 32) (kk : Fin k0_t2_loop.trips) (x : PUnit) :
    innerInv0 d L Tx Ix (Finset.univ \ (obK1).view.set) n h kk.val x
      ⊢ (wp frame (wpE (defs₀ (F := F)) 𝒱₀ (V d (cV L) (jV L)) none) Set.univ
          (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k kk x)
          (fun y => innerInv0 d L Tx Ix (Finset.univ \ (obK1).view.set) n h (kk.val + 1) y) : sProp 𝕄) := by
  cases x
  unfold innerInv0
  iintro ⟨%fob', %hs, Hrw, Hob⟩
  iapply (wp_wand_r frame _ Set.univ)
  isplitl [Hrw Hob]
  · iapply (inner_trip0 d L k kk h fob' v2)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k2_lt kk⟩ : Fin 4) := Fin.ext hrk
        subst er
        refine (p1 g l).trans ?_
        unfold scrSum rowSum
        refine congrArg Cert.Proof.KB.tree32 (funext fun q => ?_)
        show h (ix3 (0 : Fin 2) (⟨32 * kk.val + q.val, by have := k2_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k2_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

/-- One trip of slot 0's inner loop against the invariant "the rows already summed hold their sums": the trip's row gets
    the tree of its 32 rows of the row scratch, which under `RowsOK` are the table rows the index chunk names. -/
theorem inner_region0_first (n : ℕ) (h : Buf (Elt F) ((V d (cV L) (jV L)).loc cc0_scratch1)) (hr : RowsOK L Tx Ix (0 : Fin 2) n h)
    (k : Fin k0_t1_loop.trips) (v2 : BitVec 32) (kk : Fin k0_t2_loop.trips) (x : PUnit) :
    innerInv0 d L Tx Ix (Finset.univ) n h kk.val x
      ⊢ (wp frame (wpE (defs₀ (F := F)) 𝒱₀ (V d (cV L) (jV L)) none) Set.univ
          (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k kk x)
          (fun y => innerInv0 d L Tx Ix (Finset.univ) n h (kk.val + 1) y) : sProp 𝕄) := by
  cases x
  unfold innerInv0
  iintro ⟨%fob', %hs, Hrw, Hob⟩
  iapply (wp_wand_r frame _ Set.univ)
  isplitl [Hrw Hob]
  · iapply (inner_trip0_first d L k kk h fob' v2)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k2_lt kk⟩ : Fin 4) := Fin.ext hrk
        subst er
        refine (p1 g l).trans ?_
        unfold scrSum rowSum
        refine congrArg Cert.Proof.KB.tree32 (funext fun q => ?_)
        show h (ix3 (0 : Fin 2) (⟨32 * kk.val + q.val, by have := k2_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k2_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

/-- One trip of slot 1's inner loop against the invariant "the rows already summed hold their sums": the trip's row gets
    the tree of its 32 rows of the row scratch, which under `RowsOK` are the table rows the index chunk names. -/
theorem inner_region1 (n : ℕ) (h : Buf (Elt F) ((V d (cV L) (jV L)).loc cc0_scratch1)) (hr : RowsOK L Tx Ix (1 : Fin 2) n h)
    (k : Fin k0_t1_loop.trips) (v2 : BitVec 32) (arg11 : BitVec 32) (kk : Fin k0_t3_loop.trips) (x : PUnit) :
    innerInv1 d L Tx Ix n h kk.val x
      ⊢ (wp frame (wpE (defs₀ (F := F)) 𝒱₀ (V d (cV L) (jV L)) none) Set.univ
          (k0_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k arg11 kk x)
          (fun y => innerInv1 d L Tx Ix n h (kk.val + 1) y) : sProp 𝕄) := by
  cases x
  unfold innerInv1
  iintro ⟨%fob', %hs, Hrw, Hob⟩
  iapply (wp_wand_r frame _ Set.univ)
  isplitl [Hrw Hob]
  · iapply (inner_trip1 d L k kk h fob' v2 arg11)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k3_lt kk⟩ : Fin 4) := Fin.ext hrk
        subst er
        refine (p1 g l).trans ?_
        unfold scrSum rowSum
        refine congrArg Cert.Proof.KB.tree32 (funext fun q => ?_)
        show h (ix3 (1 : Fin 2) (⟨32 * kk.val + q.val, by have := k3_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k3_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

end Inner

end Cert.Proof.TileB

end
-- ==== Proof.GatherReadK.lean ====
/-
  What an indirect gather of 128 rows of the table leaves in its destination, read at an index.

  The gather's destination is a [128,128] slot; entry p of the 128-entry offset list names a row of the [10000,128]
  table; after the gather, row p of the destination is that row of the table: the element at (p, j) is the table's
  element at (offs[p], j).
-/
import proofs.«205366_g3083786518796_cont_9to1_852_38_alg».proof.Proof.Gen.Kernel
import Idealize.ShloMosaic.Lib.SparseCore.Stream
import Idealize.ShloMosaic.Lib.ValueIdx
import proofs.«205366_g3083786518796_cont_9to1_852_38_alg».proof.Proof.ScTilePartsK

noncomputable section

namespace Cert.Proof.GatherReadB

open Cert.Kernel Cert.Kernel.Gen
open Idealize.ShloMosaic Idealize.ShloMosaic.ValueIdx

variable {F : FTy → Type}

/-- The row the offset list names for destination row `p`: entry `p` of the list (a rank-one list's `p`-th word in
    row-major order is its `p`-th word). -/
theorem rows_apply (offs : S128.Idx → Elt F .i32) (hn : S128.numel = S128x128.size (gathers_S10000x128_S128x128).axis')
    (hin : ∀ x, (offs x).toNat < S10000x128.size (gathers_S10000x128_S128x128).axis) (p : Fin 128) :
    (SparseCore.rows (F := F) offs hn hin p).val = (offs (ix1 p)).toNat := by
  unfold SparseCore.rows
  show (offs (S128.rowMajor.symm (Fin.cast hn.symm p))).toNat = _
  congr 2
  apply S128.rowMajor.injective
  rw [Equiv.apply_symm_apply]
  apply Fin.ext
  rw [Shape.rowMajor_val_one]
  rfl

/-- THE GATHER'S PAYLOAD AT AN INDEX: element (p, j) of the destination is the table's element at (offs[p], j). -/
theorem gatherPayload_apply (Tx : S10000x128.Idx → Elt F .f32) (offs : S128.Idx → Elt F .i32)
    (hn : S128.numel = S128x128.size (gathers_S10000x128_S128x128).axis')
    (hin : ∀ x, (offs x).toNat < S10000x128.size (gathers_S10000x128_S128x128).axis) (p j : Fin 128) :
    SparseCore.gatherPayload (F := F) gathers_S10000x128_S128x128 Tx (SparseCore.rows (F := F) offs hn hin) (ix2 p j)
      = Tx (ix2 (⟨(offs (ix1 p)).toNat, hin _⟩ : Fin 10000) j) := by
  unfold SparseCore.gatherPayload
  congr 1
  funext b
  refine Fin.ext ?_
  match b with
  | ⟨0, _⟩ =>
    show ((gathers_S10000x128_S128x128).idx (SparseCore.rows (F := F) offs hn hin) (ix2 p j) (gathers_S10000x128_S128x128).axis).val = _
    rw [Shape.Gathers.idx_axis]
    exact rows_apply offs hn hin p
  | ⟨1, _⟩ =>
    exact Shape.Gathers.idx_of_ne gathers_S10000x128_S128x128 _ (ix2 p j) (⟨1, by decide⟩ : Fin S10000x128.rank) (by decide)

/-! ## The offsets the kernel gathers by: a window of the index scratch, which holds the worker's row of the index table -/

/-- The `n`-th window of 128 entries of the index scratch, read at entry `p`: entry `128·n + p` of the scratch. -/
theorem ixWin_read (n : ℕ) (h : ∀ a, (![128 * n] : Fin 1 → ℕ) a + S128.size a ≤ S10496.size a) (g : S10496.Idx → Elt F .i32)
    (p : Fin 128) (hp : 128 * n + p.val < 10496) :
    (Cert.Proof.TileB.ixWinK n h).view.read (Elt F) g (ix1 p) = g (ix1 (⟨128 * n + p.val, hp⟩ : Fin 10496)) := by
  rw [View.read_apply]
  show g ((Rect.unit (s := S10496) ![128 * n] S128.size h).emb (ix1 p)) = _
  congr 1
  funext a
  refine Fin.ext ?_
  match a with
  | ⟨0, _⟩ =>
    rw [Rect.emb_apply]
    show 128 * n + 1 * p.val = 128 * n + p.val
    omega

/-- THE GATHER OF A WINDOW, AT AN INDEX: with the index scratch holding the worker's row of the index table `Ix` and
    the offsets its `n`-th window, element (p, j) of the destination is the table's element at the row that entry
    `128·n + p` of the worker's row names, lane j. -/
theorem gather_window_apply (L : grid0.Coords) (Tx : S10000x128.Idx → Elt F .f32) (Ix : S32x10496.Idx → BitVec 32)
    (n : ℕ) (h : ∀ a, (![128 * n] : Fin 1 → ℕ) a + S128.size a ≤ S10496.size a)
    (hn : S128.numel = S128x128.size (gathers_S10000x128_S128x128).axis')
    (hin : ∀ x, ((Cert.Proof.TileB.ixWinK n h).view.read (Elt F) ((Cert.Proof.TileB.iRowK L).view.read (Elt F) Ix) x).toNat
      < S10000x128.size (gathers_S10000x128_S128x128).axis)
    (p j : Fin 128) (hp : 128 * n + p.val < 10496) (hr : (Ix (ix2 (Cert.Proof.KB.wid (Cert.Proof.KB.cL0 L) (Cert.Proof.KB.jL0 L)) (⟨128 * n + p.val, hp⟩ : Fin 10496))).toNat < 10000) :
    SparseCore.gatherPayload (F := F) gathers_S10000x128_S128x128 Tx
        (SparseCore.rows (F := F) ((Cert.Proof.TileB.ixWinK n h).view.read (Elt F) ((Cert.Proof.TileB.iRowK L).view.read (Elt F) Ix)) hn hin) (ix2 p j)
      = Tx (ix2 (⟨(Ix (ix2 (Cert.Proof.KB.wid (Cert.Proof.KB.cL0 L) (Cert.Proof.KB.jL0 L)) (⟨128 * n + p.val, hp⟩ : Fin 10496))).toNat, hr⟩ : Fin 10000) j) := by
  rw [gatherPayload_apply]
  congr 2
  refine Fin.ext ?_
  show ((Cert.Proof.TileB.ixWinK n h).view.read (Elt F) ((Cert.Proof.TileB.iRowK L).view.read (Elt F) Ix) (ix1 p)).toNat = _
  rw [ixWin_read n h _ p hp, View.read_apply, Cert.Proof.KB.iRow_emb L _ hp]
  rfl

end Cert.Proof.GatherReadB

end
-- ==== Proof.GSumWindowK.lean ====
/-
  The link between one gathered window and the neighbour sums.

  Worker w's output row 320·w + 4·n + r' (n < 80 the window's number, r' < 4) sums, over k < 32, the table rows named
  by entries 32·(4·n + r') + k = 128·n + (32·r' + k) of the worker's index row: entries 32·r' + k of the n-th window
  of 128.  So when a slot holds the n-th window's gather — its row p the table row that entry 128·n + p names — the
  output row is the tree sum of the slot's rows 32·r' … 32·r' + 31, lane by lane.
-/
import proofs.«205366_g3083786518796_cont_9to1_852_38_alg».proof.Proof.GSumK
import proofs.«205366_g3083786518796_cont_9to1_852_38_alg».proof.Proof.GatherReadK

noncomputable section

namespace Cert.Proof.KB

open Cert.Kernel
open Idealize.ShloMosaic Idealize.ShloMosaic.ValueIdx

variable {F : FTy → Type} [FloatOps F]

/-- THE WINDOW'S SUMS: a slot holding the `n`-th window's gather gives rows 4·n … 4·n + 3 of the worker's neighbour sums
    as the tree sums of its four groups of 32 rows. -/
theorem gsumF_window (Tx : S10000x128.Idx → F .f32) (Ix : S32x10496.Idx → BitVec 32) (w : Fin 32) (n : ℕ) (hn : n < 80)
    (slot : S128x128.Idx → F .f32) (hin : ∀ k : Fin 10496, (Ix (ix2 w k)).toNat < 10000)
    (hslot : ∀ (p j : Fin 128), slot (ix2 p j)
      = Tx (ix2 (⟨(Ix (ix2 w (⟨128 * n + p.val, by omega⟩ : Fin 10496))).toNat, hin _⟩ : Fin 10000) j))
    (r' : Fin 4) (j : Fin 128) :
    gsumF Tx Ix (ix2 (⟨320 * w.val + 4 * n + r'.val, by omega⟩ : Fin 10240) j)
      = tree32 fun k : Fin 32 => slot (ix2 (⟨32 * r'.val + k.val, by omega⟩ : Fin 128) j) := by
  have e1 : (320 * w.val + 4 * n + r'.val) / 320 = w.val := by omega
  have e2 : (320 * w.val + 4 * n + r'.val) % 320 = 4 * n + r'.val := by omega
  show (tree32 fun k : Fin 32 =>
    Tx (ix2
      ⟨(Ix (ix2 ⟨(320 * w.val + 4 * n + r'.val) / 320, by omega⟩
          ⟨32 * ((320 * w.val + 4 * n + r'.val) % 320) + k.val, by omega⟩)).toNat % 10000, Nat.mod_lt _ (by decide)⟩ j)) = _
  congr 1
  funext k
  rw [hslot]
  have hI : Ix (ix2 (⟨(320 * w.val + 4 * n + r'.val) / 320, by omega⟩ : Fin 32)
        (⟨32 * ((320 * w.val + 4 * n + r'.val) % 320) + k.val, by omega⟩ : Fin 10496))
      = Ix (ix2 w (⟨128 * n + (32 * r'.val + k.val), by omega⟩ : Fin 10496)) := by
    congr 1
    have ha : (⟨(320 * w.val + 4 * n + r'.val) / 320, by omega⟩ : Fin 32) = w := Fin.ext e1
    have hb : (⟨32 * ((320 * w.val + 4 * n + r'.val) % 320) + k.val, by omega⟩ : Fin 10496) = ⟨128 * n + (32 * r'.val + k.val), by omega⟩ :=
      Fin.ext (by show 32 * ((320 * w.val + 4 * n + r'.val) % 320) + k.val = 128 * n + (32 * r'.val + k.val); omega)
    rw [ha, hb]
  congr 2
  refine Fin.ext ?_
  show (Ix (ix2 (⟨(320 * w.val + 4 * n + r'.val) / 320, by omega⟩ : Fin 32)
        (⟨32 * ((320 * w.val + 4 * n + r'.val) % 320) + k.val, by omega⟩ : Fin 10496))).toNat % 10000 = _
  rw [hI, Nat.mod_eq_of_lt (hin _)]

/-- The same at lane `16·g + l` of the eight 16-lane groups of a row (the form the vector unit's additions have). -/
theorem gsumF_window_lanes (Tx : S10000x128.Idx → F .f32) (Ix : S32x10496.Idx → BitVec 32) (w : Fin 32) (n : ℕ) (hn : n < 80)
    (slot : S128x128.Idx → F .f32) (hin : ∀ k : Fin 10496, (Ix (ix2 w k)).toNat < 10000)
    (hslot : ∀ (p j : Fin 128), slot (ix2 p j)
      = Tx (ix2 (⟨(Ix (ix2 w (⟨128 * n + p.val, by omega⟩ : Fin 10496))).toNat, hin _⟩ : Fin 10000) j))
    (r' : Fin 4) (g : Fin 8) (l : Fin 16) :
    gsumF Tx Ix (ix2 (⟨320 * w.val + 4 * n + r'.val, by omega⟩ : Fin 10240) (⟨16 * g.val + l.val, by omega⟩ : Fin 128))
      = tree32 fun k : Fin 32 => slot (ix2 (⟨32 * r'.val + k.val, by omega⟩ : Fin 128) (⟨16 * g.val + l.val, by omega⟩ : Fin 128)) :=
  gsumF_window Tx Ix w n hn slot hin hslot r' _

/-- THE CHUNK'S VALUES: the result chunk of trip `t`, slot `b` is rows 4·n … 4·n + 3 (n = 2·t + b) of the worker's
    rows; contents that hold, at each of these four rows, the tree sums of the slot's groups of 32 rows — the slot
    holding the n-th window's gather — are the neighbour sums on the chunk. -/
theorem chunk_val (L : grid0.Coords) (t : Fin k0_t1_loop.trips) (b : Fin 2) (Tx : S10000x128.Idx → F .f32) (Ix : S32x10496.Idx → BitVec 32)
    (f : S10240x128.Idx → F .f32) (slot : S128x128.Idx → F .f32)
    (hin : ∀ k : Fin 10496, (Ix (ix2 (wid (cL0 L) (jL0 L)) k)).toNat < 10000)
    (hslot : ∀ (p j : Fin 128), slot (ix2 p j)
      = Tx (ix2 (⟨(Ix (ix2 (wid (cL0 L) (jL0 L)) (⟨128 * (2 * t.val + b.val) + p.val, by
          have := lt_of_lt_of_eq t.isLt Cert.Proof.TileB.trips_eq; omega⟩ : Fin 10496))).toNat, hin _⟩ : Fin 10000) j))
    (hf : ∀ (r' : Fin 4) (j : Fin 128),
      f (ix2 (⟨320 * (wid (cL0 L) (jL0 L)).val + 4 * (2 * t.val + b.val) + r'.val, by
          have := lt_of_lt_of_eq t.isLt Cert.Proof.TileB.trips_eq; omega⟩ : Fin 10240) j)
        = tree32 fun k : Fin 32 => slot (ix2 (⟨32 * r'.val + k.val, by omega⟩ : Fin 128) j)) :
    ∀ x ∈ Cert.Proof.TileB.oChunkSet L t b, f x = gsumF Tx Ix x := by
  intro x hx
  have ht : t.val < 40 := lt_of_lt_of_eq t.isLt Cert.Proof.TileB.trips_eq
  have hb := b.isLt
  rw [Cert.Proof.TileB.mem_oChunkSet] at hx
  obtain ⟨a, j, rfl⟩ : ∃ (a : Fin 10240) (j : Fin 128), x = ix2 a j := ⟨x 0, x 1, eq_ix2 x⟩
  have hw : (wid (cL0 L) (jL0 L)).val = 2 * (L 1).val + (L 0).val := rfl
  have hx' : 640 * (L 1).val + 320 * (L 0).val + 8 * t.val + 4 * b.val ≤ a.val
      ∧ a.val < 640 * (L 1).val + 320 * (L 0).val + 8 * t.val + 4 * b.val + 4 := hx
  have hr : a.val - (320 * (wid (cL0 L) (jL0 L)).val + 4 * (2 * t.val + b.val)) < 4 := by omega
  have e : (ix2 a j : S10240x128.Idx) = ix2 (⟨320 * (wid (cL0 L) (jL0 L)).val + 4 * (2 * t.val + b.val)
      + (⟨a.val - (320 * (wid (cL0 L) (jL0 L)).val + 4 * (2 * t.val + b.val)), hr⟩ : Fin 4).val, by omega⟩ : Fin 10240) j := by
    congr 1
    exact Fin.ext (by
      show a.val = 320 * (wid (cL0 L) (jL0 L)).val + 4 * (2 * t.val + b.val) + (a.val - (320 * (wid (cL0 L) (jL0 L)).val + 4 * (2 * t.val + b.val)))
      omega)
  rw [e, hf, gsumF_window Tx Ix (wid (cL0 L) (jL0 L)) (2 * t.val + b.val) (by omega) slot hin hslot]

end Cert.Proof.KB

end
-- ==== Proof.BodyStepsVK.lean ====
/-
  The value steps of the gather-sum trips, as pure facts about the contents the transfers leave: a slot of the row scratch
  after its gather holds the table rows its index window names; a result chunk after its copy-out holds its rows of the
  neighbour-sum array when the result scratch's slot held the tree sums.
-/
import proofs.«205366_g3083786518796_cont_9to1_852_38_alg».proof.Proof.BodyLemmasK
import proofs.«205366_g3083786518796_cont_9to1_852_38_alg».proof.Proof.BodyInvVK
import proofs.«205366_g3083786518796_cont_9to1_852_38_alg».proof.Proof.GatherReadK
import proofs.«205366_g3083786518796_cont_9to1_852_38_alg».proof.Proof.GSumWindowK

noncomputable section

namespace Cert.Proof.TileB

open Cert.Kernel Cert.Kernel.Gen
open Idealize.ShloMosaic
open Idealize.ShloMosaic.ValueIdx (ix1 ix2 ix3)

variable {F : FTy → Type}

/-! ## The views' placements -/

/-- Slot 0 of the row scratch: its element (r, j) is the scratch's element (0, r, j). -/
theorem rwK0_emb (r j : Fin 128) : (rwK0).view.emb (ix2 r j : S128x128.Idx) = (ix3 (0 : Fin 2) r j : S2x128x128.Idx) := by
  have hk : Shape.reshapeEquiv (s := S1x128x128) (s' := S128x128) (squeezes_S1x128x128_S128x128).numel_eq (ix2 r j : S128x128.Idx)
      = (ix3 (0 : Fin 1) r j : S1x128x128.Idx) :=
    Shape.reshapeEquiv_eq_of_rowMajor _ (by
      show ((⟨3, ![1, 128, 128]⟩ : Shape).rowMajor (ix3 (0 : Fin 1) r j) : ℕ) = ((⟨2, ![128, 128]⟩ : Shape).rowMajor (ix2 r j) : ℕ)
      rw [Shape.rowMajor_val_three, Shape.rowMajor_val_two]; simp)
  show (Rect.unit (s := S2x128x128) ![0, 0, 0] S1x128x128.size inb_S2x128x128_S1x128x128_0_0_0).emb
    (Shape.reshapeEquiv (s := S1x128x128) (s' := S128x128) (squeezes_S1x128x128_S128x128).numel_eq (ix2 r j : S128x128.Idx)) = _
  rw [hk]
  funext a
  refine Fin.ext ?_
  match a with
  | ⟨0, _⟩ => show 0 + 1 * 0 = 0; rfl
  | ⟨1, _⟩ => show 0 + 1 * r.val = r.val; omega
  | ⟨2, _⟩ => show 0 + 1 * j.val = j.val; omega

/-- Slot 1 of the row scratch. -/
theorem rwK1_emb (r j : Fin 128) : (rwK1).view.emb (ix2 r j : S128x128.Idx) = (ix3 (1 : Fin 2) r j : S2x128x128.Idx) := by
  have hk : Shape.reshapeEquiv (s := S1x128x128) (s' := S128x128) (squeezes_S1x128x128_S128x128).numel_eq (ix2 r j : S128x128.Idx)
      = (ix3 (0 : Fin 1) r j : S1x128x128.Idx) :=
    Shape.reshapeEquiv_eq_of_rowMajor _ (by
      show ((⟨3, ![1, 128, 128]⟩ : Shape).rowMajor (ix3 (0 : Fin 1) r j) : ℕ) = ((⟨2, ![128, 128]⟩ : Shape).rowMajor (ix2 r j) : ℕ)
      rw [Shape.rowMajor_val_three, Shape.rowMajor_val_two]; simp)
  show (Rect.unit (s := S2x128x128) ![1, 0, 0] S1x128x128.size inb_S2x128x128_S1x128x128_1_0_0).emb
    (Shape.reshapeEquiv (s := S1x128x128) (s' := S128x128) (squeezes_S1x128x128_S128x128).numel_eq (ix2 r j : S128x128.Idx)) = _
  rw [hk]
  funext a
  refine Fin.ext ?_
  match a with
  | ⟨0, _⟩ => show 1 + 1 * 0 = 1; rfl
  | ⟨1, _⟩ => show 0 + 1 * r.val = r.val; omega
  | ⟨2, _⟩ => show 0 + 1 * j.val = j.val; omega

/-- The shared table addressed whole reads the table. -/
theorem shAll_read (Tx : S10000x128.Idx → Elt F .f32) (x : S10000x128.Idx) : (shAllK).view.read (Elt F) Tx x = Tx x := by
  rw [View.read_apply]
  show Tx ((Rect.unit (s := S10000x128) ![0, 0] S10000x128.size inb_S10000x128_S10000x128_0_0).emb x) = Tx x
  congr 1
  funext a
  refine Fin.ext ?_
  match a with
  | ⟨0, _⟩ => show 0 + 1 * (x 0).val = (x 0).val; omega
  | ⟨1, _⟩ => show 0 + 1 * (x 1).val = (x 1).val; omega

/-! ## A slot after its gather -/

section Steps

variable (L : grid0.Coords) (Tx : S10000x128.Idx → Elt F .f32) (Ix : S32x10496.Idx → Elt F .i32)

/-- Writing a whole slot of the row scratch, read back at the slot's element. -/
theorem write_rwK0 (g : S2x128x128.Idx → Elt F .f32) (P : S128x128.Idx → Elt F .f32) (r j : Fin 128) :
    View.write (Elt F) (rwK0).view g P Finset.univ (ix3 (0 : Fin 2) r j) = P (ix2 r j) := by
  rw [← rwK0_emb r j, View.write_emb, if_pos (Finset.mem_univ _)]; rfl
theorem write_rwK1 (g : S2x128x128.Idx → Elt F .f32) (P : S128x128.Idx → Elt F .f32) (r j : Fin 128) :
    View.write (Elt F) (rwK1).view g P Finset.univ (ix3 (1 : Fin 2) r j) = P (ix2 r j) := by
  rw [← rwK1_emb r j, View.write_emb, if_pos (Finset.mem_univ _)]; rfl

/-- The offsets of the `n`-th window name the rows `idxAt` names. -/
theorem window_row (n : ℕ) (hn : n ≤ 81) (inb : ∀ a, (![128 * n] : Fin 1 → ℕ) a + S128.size a ≤ S10496.size a)
    (hin' : ∀ x, (((ixWinK n inb).view.read (Elt F) ((iRowK L).view.read (Elt F) Ix)) x).toNat
      < S10000x128.size (gathers_S10000x128_S128x128).axis) (r : Fin 128) :
    (((ixWinK n inb).view.read (Elt F) ((iRowK L).view.read (Elt F) Ix)) (ix1 r)).toNat = (idxAt L Ix (128 * n + r.val)).val := by
  have hp : 128 * n + r.val < 10496 := by have := r.isLt; omega
  have h1 := hin' (ix1 r)
  rw [Cert.Proof.GatherReadB.ixWin_read n inb _ r hp] at h1 ⊢
  unfold idxAt
  show _ = ((iRowK L).view.read (Elt F) Ix (ix1 ⟨(128 * n + r.val) % 10496, Nat.mod_lt _ (by decide)⟩)).toNat % 10000
  have e : (⟨(128 * n + r.val) % 10496, Nat.mod_lt _ (by decide)⟩ : Fin 10496) = ⟨128 * n + r.val, hp⟩ := Fin.ext (Nat.mod_eq_of_lt hp)
  have h1' : ((iRowK L).view.read (Elt F) Ix (ix1 (⟨128 * n + r.val, hp⟩ : Fin 10496))).toNat < 10000 := h1
  rw [e, Nat.mod_eq_of_lt h1']

/-- SLOT 0 AFTER ITS GATHER holds the 128 table rows its index window names. -/
theorem rows_ok0 (n : ℕ) (hn : n ≤ 81) (off : Fin 1 → ℕ) (hoff : off = ![128 * n]) (inb : ∀ a, off a + S128.size a ≤ S10496.size a)
    (g : S2x128x128.Idx → Elt F .f32)
    (hnum : S128.numel = S128x128.size (gathers_S10000x128_S128x128).axis')
    (hin' : ∀ x, ((((Memref.whole cc0_scratch0 : Memref sig .scVector .vmem S10496 .i32).slice (Rect.unit (s := S10496) off S128.size inb) (fun _ => rfl)).view.read (Elt F)
        ((iRowK L).view.read (Elt F) Ix)) x).toNat < S10000x128.size (gathers_S10000x128_S128x128).axis) :
    RowsOK L Tx Ix 0 n (View.write (Elt F) (rwK0).view g
      (SparseCore.gatherPayload gathers_S10000x128_S128x128 ((shAllK).view.read (Elt F) Tx)
        (SparseCore.rows (((Memref.whole cc0_scratch0 : Memref sig .scVector .vmem S10496 .i32).slice (Rect.unit (s := S10496) off S128.size inb) (fun _ => rfl)).view.read (Elt F)
          ((iRowK L).view.read (Elt F) Ix)) hnum hin')) Finset.univ) := by
  subst hoff
  intro r j
  rw [write_rwK0, Cert.Proof.GatherReadB.gatherPayload_apply, shAll_read]
  congr 2
  exact Fin.ext (window_row L Ix n hn inb hin' r)

/-- SLOT 1 AFTER ITS GATHER. -/
theorem rows_ok1 (n : ℕ) (hn : n ≤ 81) (off : Fin 1 → ℕ) (hoff : off = ![128 * n]) (inb : ∀ a, off a + S128.size a ≤ S10496.size a)
    (g : S2x128x128.Idx → Elt F .f32)
    (hnum : S128.numel = S128x128.size (gathers_S10000x128_S128x128).axis')
    (hin' : ∀ x, ((((Memref.whole cc0_scratch0 : Memref sig .scVector .vmem S10496 .i32).slice (Rect.unit (s := S10496) off S128.size inb) (fun _ => rfl)).view.read (Elt F)
        ((iRowK L).view.read (Elt F) Ix)) x).toNat < S10000x128.size (gathers_S10000x128_S128x128).axis) :
    RowsOK L Tx Ix 1 n (View.write (Elt F) (rwK1).view g
      (SparseCore.gatherPayload gathers_S10000x128_S128x128 ((shAllK).view.read (Elt F) Tx)
        (SparseCore.rows (((Memref.whole cc0_scratch0 : Memref sig .scVector .vmem S10496 .i32).slice (Rect.unit (s := S10496) off S128.size inb) (fun _ => rfl)).view.read (Elt F)
          ((iRowK L).view.read (Elt F) Ix)) hnum hin')) Finset.univ) := by
  subst hoff
  intro r j
  rw [write_rwK1, Cert.Proof.GatherReadB.gatherPayload_apply, shAll_read]
  congr 2
  exact Fin.ext (window_row L Ix n hn inb hin' r)

end Steps

/-! ## A result chunk after its copy-out -/

/-- Slot 0 / 1 of the result scratch: element (r', j) is the scratch's element (b, r', j). -/
theorem obK0_emb (r' : Fin 4) (j : Fin 128) : (obK0).view.emb (ix2 r' j : S4x128.Idx) = (ix3 (0 : Fin 2) r' j : S2x4x128.Idx) := by
  have hk : Shape.reshapeEquiv (s := S1x4x128) (s' := S4x128) (squeezes_S1x4x128_S4x128).numel_eq (ix2 r' j : S4x128.Idx)
      = (ix3 (0 : Fin 1) r' j : S1x4x128.Idx) :=
    Shape.reshapeEquiv_eq_of_rowMajor _ (by
      show ((⟨3, ![1, 4, 128]⟩ : Shape).rowMajor (ix3 (0 : Fin 1) r' j) : ℕ) = ((⟨2, ![4, 128]⟩ : Shape).rowMajor (ix2 r' j) : ℕ)
      rw [Shape.rowMajor_val_three, Shape.rowMajor_val_two]; simp)
  show (Rect.unit (s := S2x4x128) ![0, 0, 0] S1x4x128.size inb_S2x4x128_S1x4x128_0_0_0).emb
    (Shape.reshapeEquiv (s := S1x4x128) (s' := S4x128) (squeezes_S1x4x128_S4x128).numel_eq (ix2 r' j : S4x128.Idx)) = _
  rw [hk]
  funext a
  refine Fin.ext ?_
  match a with
  | ⟨0, _⟩ => show 0 + 1 * 0 = 0; rfl
  | ⟨1, _⟩ => show 0 + 1 * r'.val = r'.val; omega
  | ⟨2, _⟩ => show 0 + 1 * j.val = j.val; omega
theorem obK1_emb (r' : Fin 4) (j : Fin 128) : (obK1).view.emb (ix2 r' j : S4x128.Idx) = (ix3 (1 : Fin 2) r' j : S2x4x128.Idx) := by
  have hk : Shape.reshapeEquiv (s := S1x4x128) (s' := S4x128) (squeezes_S1x4x128_S4x128).numel_eq (ix2 r' j : S4x128.Idx)
      = (ix3 (0 : Fin 1) r' j : S1x4x128.Idx) :=
    Shape.reshapeEquiv_eq_of_rowMajor _ (by
      show ((⟨3, ![1, 4, 128]⟩ : Shape).rowMajor (ix3 (0 : Fin 1) r' j) : ℕ) = ((⟨2, ![4, 128]⟩ : Shape).rowMajor (ix2 r' j) : ℕ)
      rw [Shape.rowMajor_val_three, Shape.rowMajor_val_two]; simp)
  show (Rect.unit (s := S2x4x128) ![1, 0, 0] S1x4x128.size inb_S2x4x128_S1x4x128_1_0_0).emb
    (Shape.reshapeEquiv (s := S1x4x128) (s' := S4x128) (squeezes_S1x4x128_S4x128).numel_eq (ix2 r' j : S4x128.Idx)) = _
  rw [hk]
  funext a
  refine Fin.ext ?_
  match a with
  | ⟨0, _⟩ => show 1 + 1 * 0 = 1; rfl
  | ⟨1, _⟩ => show 0 + 1 * r'.val = r'.val; omega
  | ⟨2, _⟩ => show 0 + 1 * j.val = j.val; omega

section Chunk

variable (L : grid0.Coords) (Tx : S10000x128.Idx → Elt F .f32) (Ix : S32x10496.Idx → Elt F .i32)

/-- The result chunk of trip `t`, slot `b`: its element (r', j) is the output's element at row 640·(L 1) + 320·(L 0) + 8·t + 4·b + r'. -/
theorem oChunk_emb (t : Fin k0_t1_loop.trips) (b : Fin 2) (r' : Fin 4) (j : Fin 128)
    (h : 640 * (L 1).val + 320 * (L 0).val + 8 * t.val + 4 * b.val + r'.val < 10240) :
    (oChunkK L t b).view.emb (ix2 r' j : S4x128.Idx)
      = (ix2 (⟨640 * (L 1).val + 320 * (L 0).val + 8 * t.val + 4 * b.val + r'.val, h⟩ : Fin 10240) j : S10240x128.Idx) := by
  show (Rect.unit (s := S10240x128) (k0_off20 L t (BitVec.ofNat 32 b.val)) S4x128.size (k0_off20_inb L t b)).emb (ix2 r' j : S4x128.Idx) = _
  have h1 := k0_off20_eq L t b
  funext a
  refine Fin.ext ?_
  rw [Rect.emb_apply]
  match a with
  | ⟨0, _⟩ =>
    show (k0_off20 L t (BitVec.ofNat 32 b.val)) 0 + 1 * r'.val = 640 * (L 1).val + 320 * (L 0).val + 8 * t.val + 4 * b.val + r'.val
    rw [h1]; simp
  | ⟨1, _⟩ =>
    show (k0_off20 L t (BitVec.ofNat 32 b.val)) 1 + 1 * j.val = j.val
    rw [h1]; simp

variable [FloatOps F]

/-- A row's sum as the kernel's invariant names it is that row of the neighbour-sum array. -/
theorem rowSum_eq (m : ℕ) (hm : m < 320) (j : Fin 128) :
    rowSum L Tx Ix m j
      = Cert.Proof.KB.gsumF (F := F) Tx Ix (ix2 (⟨320 * (2 * (L 1).val + (L 0).val) + m, by
          have h1 : (L 1).val < 16 := (L 1).isLt
          have h0 : (L 0).val < 2 := (L 0).isLt
          omega⟩ : Fin 10240) j) := by
  have h1 : (L 1).val < 16 := (L 1).isLt
  have h0 : (L 0).val < 2 := (L 0).isLt
  have e1 : (320 * (2 * (L 1).val + (L 0).val) + m) / 320 = 2 * (L 1).val + (L 0).val := by omega
  have e2 : (320 * (2 * (L 1).val + (L 0).val) + m) % 320 = m := by omega
  unfold rowSum
  show _ = (Cert.Proof.KB.tree32 fun k : Fin 32 =>
    Tx (ix2
      ⟨(Ix (ix2 ⟨(320 * (2 * (L 1).val + (L 0).val) + m) / 320, by omega⟩
          ⟨32 * ((320 * (2 * (L 1).val + (L 0).val) + m) % 320) + k.val, by omega⟩)).toNat % 10000, Nat.mod_lt _ (by decide)⟩ j))
  congr 1
  funext k
  congr 2
  refine Fin.ext ?_
  unfold idxAt
  show ((iRowK L).view.read (Elt F) Ix (ix1 ⟨(32 * m + k.val) % 10496, Nat.mod_lt _ (by decide)⟩)).toNat % 10000 = _
  have hp : 32 * m + k.val < 10496 := by have := k.isLt; omega
  have e : (⟨(32 * m + k.val) % 10496, Nat.mod_lt _ (by decide)⟩ : Fin 10496) = ⟨32 * m + k.val, hp⟩ := Fin.ext (Nat.mod_eq_of_lt hp)
  rw [e, View.read_apply, Cert.Proof.KB.iRow_emb L _ hp]
  show (Ix (ix2 (Cert.Proof.KB.wid (Cert.Proof.KB.cL0 L) (Cert.Proof.KB.jL0 L)) (⟨32 * m + k.val, hp⟩ : Fin 10496))).toNat % 10000 = _
  congr 3
  congr 1
  · exact Fin.ext e1.symm
  · exact Fin.ext (by show 32 * m + k.val = 32 * ((320 * (2 * (L 1).val + (L 0).val) + m) % 320) + k.val; rw [e2])

/-- THE CHUNK OF SLOT 0 AFTER ITS COPY-OUT holds its rows of the neighbour-sum array, when the slot of the result scratch held
    the four tree sums. -/
theorem chunk_ok0 (k : Fin k0_t1_loop.trips) (fc : S10240x128.Idx → Elt F .f32) (fob : S2x4x128.Idx → Elt F .f32)
    (hs : SumsOK L Tx Ix 0 (2 * k.val) 4 fob) :
    ChunkOK L Tx Ix k 0 ((oChunkK L k 0).view.writes (Elt F) fc [⟨Rect.whole S4x128, ReadAs.same.apply ((obK0).view.read (Elt F) fob)⟩]) := by
  intro x hx
  have hk : k.val < 40 := lt_of_lt_of_eq k.isLt trips_eq
  have h1 : (L 1).val < 16 := (L 1).isLt
  have h0 : (L 0).val < 2 := (L 0).isLt
  obtain ⟨y, -, rfl⟩ := Finset.mem_map.mp hx
  obtain ⟨r', j, rfl⟩ : ∃ (r' : Fin 4) (j : Fin 128), y = (ix2 r' j : S4x128.Idx) := ⟨y 0, y 1, ValueIdx.eq_ix2 y⟩
  have h := View.read_writes_cons_emb (Val := Elt F) (oChunkK L k 0).view fc (Rect.whole S4x128)
    (ReadAs.same.apply ((obK0).view.read (Elt F) fob)) [] (ix2 r' j : S4x128.Idx)
  rw [Rect.emb_whole_apply, View.read_apply, ReadAs.apply_same, View.read_apply] at h
  simp only [cast_eq] at h
  have hrow : 640 * (L 1).val + 320 * (L 0).val + 8 * k.val + 4 * (0 : Fin 2).val + r'.val < 10240 := by
    have := r'.isLt; show 640 * (L 1).val + 320 * (L 0).val + 8 * k.val + 4 * 0 + r'.val < 10240; omega
  rw [h, obK0_emb r' j, hs r' j r'.isLt, rowSum_eq L Tx Ix (4 * (2 * k.val) + r'.val) (by have := r'.isLt; omega) j,
    oChunk_emb L k 0 r' j hrow]
  congr 2
  exact Fin.ext (by
    show 320 * (2 * (L 1).val + (L 0).val) + (4 * (2 * k.val) + r'.val) = 640 * (L 1).val + 320 * (L 0).val + 8 * k.val + 4 * 0 + r'.val
    omega)

/-- THE CHUNK OF SLOT 1 AFTER ITS COPY-OUT holds its rows of the neighbour-sum array, when the slot of the result scratch held
    the four tree sums. -/
theorem chunk_ok1 (k : Fin k0_t1_loop.trips) (fc : S10240x128.Idx → Elt F .f32) (fob : S2x4x128.Idx → Elt F .f32)
    (hs : SumsOK L Tx Ix 1 (2 * k.val + 1) 4 fob) :
    ChunkOK L Tx Ix k 1 ((oChunkK L k 1).view.writes (Elt F) fc [⟨Rect.whole S4x128, ReadAs.same.apply ((obK1).view.read (Elt F) fob)⟩]) := by
  intro x hx
  have hk : k.val < 40 := lt_of_lt_of_eq k.isLt trips_eq
  have h1 : (L 1).val < 16 := (L 1).isLt
  have h0 : (L 0).val < 2 := (L 0).isLt
  obtain ⟨y, -, rfl⟩ := Finset.mem_map.mp hx
  obtain ⟨r', j, rfl⟩ : ∃ (r' : Fin 4) (j : Fin 128), y = (ix2 r' j : S4x128.Idx) := ⟨y 0, y 1, ValueIdx.eq_ix2 y⟩
  have h := View.read_writes_cons_emb (Val := Elt F) (oChunkK L k 1).view fc (Rect.whole S4x128)
    (ReadAs.same.apply ((obK1).view.read (Elt F) fob)) [] (ix2 r' j : S4x128.Idx)
  rw [Rect.emb_whole_apply, View.read_apply, ReadAs.apply_same, View.read_apply] at h
  simp only [cast_eq] at h
  have hrow : 640 * (L 1).val + 320 * (L 0).val + 8 * k.val + 4 * (1 : Fin 2).val + r'.val < 10240 := by
    have := r'.isLt; show 640 * (L 1).val + 320 * (L 0).val + 8 * k.val + 4 * 1 + r'.val < 10240; omega
  rw [h, obK1_emb r' j, hs r' j r'.isLt, rowSum_eq L Tx Ix (4 * (2 * k.val + 1) + r'.val) (by have := r'.isLt; omega) j,
    oChunk_emb L k 1 r' j hrow]
  congr 2
  exact Fin.ext (by
    show 320 * (2 * (L 1).val + (L 0).val) + (4 * (2 * k.val + 1) + r'.val) = 640 * (L 1).val + 320 * (L 0).val + 8 * k.val + 4 * 1 + r'.val
    omega)

end Chunk

end Cert.Proof.TileB

end
-- ==== Proof.BodyTripVK.lean ====
/-
  One trip of the gather-sum kernel's forty, with what the buffers hold: from the valued invariant to itself one trip on.
  The slot's gather leaves the table rows its index chunk names; the inner loop leaves the four tree sums; the copy-out's
  chunk holds its rows of the neighbour-sum array.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsK
import proofs.«205366_g3083786518796_cont_9to1_852_38_alg».proof.Proof.BodyLemmasK
import proofs.«205366_g3083786518796_cont_9to1_852_38_alg».proof.Proof.BodyInvK
import proofs.«205366_g3083786518796_cont_9to1_852_38_alg».proof.Proof.BodyJoinK
import proofs.«205366_g3083786518796_cont_9to1_852_38_alg».proof.Proof.GSumK
import proofs.«205366_g3083786518796_cont_9to1_852_38_alg».proof.Proof.BodyInvVK
import proofs.«205366_g3083786518796_cont_9to1_852_38_alg».proof.Proof.BodyTripK
import proofs.«205366_g3083786518796_cont_9to1_852_38_alg».proof.Proof.BodyStepVK
import proofs.«205366_g3083786518796_cont_9to1_852_38_alg».proof.Proof.BodyInnerVK
import proofs.«205366_g3083786518796_cont_9to1_852_38_alg».proof.Proof.BodyStepsVK
import Idealize.ShloMosaic.Lib.ValueIdx

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

section Body
variable (d : Dev nD) (L : grid0.Coords)

open Idealize.ShloMosaic.ValueIdx (ix1 ix2 ix3)

set_option maxHeartbeats 8000000 in
/-- The first trip: no copy-out is pending. -/
theorem trip0V (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (HR0f : ∀ (n : ℕ) (h : Buf (Elt F) ((V d (cV L) (jV L)).loc cc0_scratch1)) (_ : RowsOK L Tx Ix 0 n h) (k : Fin k0_t1_loop.trips) (v2 : BitVec 32) (k2 : Fin k0_t2_loop.trips) (x : PUnit),
      innerInv0 (U := U) d L Tx Ix Finset.univ n h k2.val x ⊢ wp frame (wpE (defs₀ (F := F)) 𝒱₀ (V d (cV L) (jV L)) none) Set.univ
        (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k k2 x) (fun y => innerInv0 (U := U) d L Tx Ix Finset.univ n h (k2.val + 1) y))
    (HR0 : ∀ (n : ℕ) (h : Buf (Elt F) ((V d (cV L) (jV L)).loc cc0_scratch1)) (_ : RowsOK L Tx Ix 0 n h) (k : Fin k0_t1_loop.trips) (v2 : BitVec 32) (k2 : Fin k0_t2_loop.trips) (x : PUnit),
      innerInv0 (U := U) d L Tx Ix (Finset.univ \ (obK1).view.set) n h k2.val x ⊢ wp frame (wpE (defs₀ (F := F)) 𝒱₀ (V d (cV L) (jV L)) none) Set.univ
        (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k k2 x) (fun y => innerInv0 (U := U) d L Tx Ix (Finset.univ \ (obK1).view.set) n h (k2.val + 1) y))
    (HR1 : ∀ (n : ℕ) (h : Buf (Elt F) ((V d (cV L) (jV L)).loc cc0_scratch1)) (_ : RowsOK L Tx Ix 1 n h) (k : Fin k0_t1_loop.trips) (v2 arg11 : BitVec 32) (k3 : Fin k0_t3_loop.trips) (x : PUnit),
      innerInv1 (U := U) d L Tx Ix n h k3.val x ⊢ wp frame (wpE (defs₀ (F := F)) 𝒱₀ (V d (cV L) (jV L)) none) Set.univ
        (k0_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k arg11 k3 x) (fun y => innerInv1 (U := U) d L Tx Ix n h (k3.val + 1) y))
    (HG0 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 0 n (View.write (Elt F) (rwK0).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HG1 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 1 n (View.write (Elt F) (rwK1).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HC0 : ∀ (k : Fin k0_t1_loop.trips) (fc : S10240x128.Idx → Elt F .f32) (fob : S2x4x128.Idx → Elt F .f32), SumsOK L Tx Ix 0 (2 * k.val) 4 fob →
      ChunkOK L Tx Ix k 0 ((oChunkK L k 0).view.writes (Elt F) fc [⟨Rect.whole S4x128, ReadAs.same.apply ((obK0).view.read (Elt F) fob)⟩]))
    (HC1 : ∀ (k : Fin k0_t1_loop.trips) (fc : S10240x128.Idx → Elt F .f32) (fob : S2x4x128.Idx → Elt F .f32), SumsOK L Tx Ix 1 (2 * k.val + 1) 4 fob →
      ChunkOK L Tx Ix k 1 ((oChunkK L k 1).view.writes (Elt F) fc [⟨Rect.whole S4x128, ReadAs.same.apply ((obK1).view.read (Elt F) fob)⟩]))
    (O : CellTallies nD τ sig (HIx 3)) (W : Waits sig (HIx 3)) (v2 : BitVec 32)
    (k : Fin k0_t1_loop.trips) (hk : k.val = 0) (x : PUnit) :
    tripInvV (U := U) d L Tx Ix O W k.val x
      ⊢ wp frame (wpE (defs₀ (F := F)) 𝒱₀ (V d (cV L) (jV L)) none) Set.univ
          (k0_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k x)
          fun y => tripInvV (U := U) d L Tx Ix O W (k.val + 1) y := by
  have hc1 := cond1_zero hk
  have hc2 := cond2_zero hk
  have hrow : (k.val + 1 ≠ k.val) := Nat.succ_ne_self _
  unfold tripInvV
  rw [if_pos hk, if_pos hk]
  unfold gFl0 gFl1
  iintro ⟨#Hmw, ⟨%fr0, %fr1, %hrows, ⟨FG0, Hix0⟩, ⟨FG1, Hix1⟩⟩, ⟨%frr, Hrwr⟩, Hsh0, Hsh1, ⟨%fob, Hob, Hso0, Hso1⟩, Hrows, ⟨%W', %hW', HO⟩⟩
  ihave Hr := (Entails.of_eq (SparseCore.bigSep_erase' (Φ := fun t' : Fin k0_t1_loop.trips => rowStV (U := U) (F := F) d L Tx Ix k.val t') (Finset.mem_univ k))) $$ Hrows
  icases Hr with ⟨Hrow, Hrest⟩
  ihave Hrow' := (Entails.of_eq (rowStV_todo (F := F) (U := U) d L Tx Ix hrow (Nat.lt_irrefl _))) $$ Hrow
  icases Hrow' with ⟨⟨%fc0, Hoc0⟩, ⟨%fc1, Hoc1⟩⟩
  unfold k0_t1_body
  -- slot 0: its gather waited for
  sl_exec
  -- slot 0 of the row scratch, back from its gather, joined to what is held of the scratch
  ihave Hj := (pts_joinV (F := F) (U := U) (sdiff_join_disj rw_slots_disjoint) fr0 frr) $$ [FG0_dst Hrwr]
  · isplitl [FG0_dst]; · iexact FG0_dst
    iexact Hrwr
  icases Hj with ⟨%g1, %hg1, Hrw⟩
  have hr1 : RowsOK L Tx Ix 0 (2 * k.val) g1 := RowsOK_of_eq0 (F := F) L Tx Ix hrows.1 hg1
  rw [sdiff_join_left rw_slots_disjoint]
  -- the four sums of slot 0
  sl_for (innerInv0 (U := U) d L Tx Ix Finset.univ (2 * k.val) g1) $$ [Hrw Hob]
  case region =>
    intro k2 x2
    exact HR0f (2 * k.val) g1 hr1 k v2 k2 x2
  · unfold innerInv0
    iexists fob; isplitr; · ipureintro; exact SumsOK_zero (F := F) L Tx Ix 0 _ _
    isplitl [Hrw]; · iexact Hrw
    iexact Hob
  iintro %_ HI
  unfold innerInv0
  icases HI with ⟨%fobA, %hsA, Hrw, Hob⟩
  have hsA4 : SumsOK L Tx Ix 0 (2 * k.val) 4 fobA := hsA
  -- slot 0 copied out, its next gather started; slot 1's gather waited for
  sl_exec
  -- slot 1 of the row scratch joined
  ihave Hj := (pts_joinV (F := F) (U := U) (sdiff_join_disj rw_slots_disjoint.symm) fr1 _) $$ [FG1_dst Hrw]
  · isplitl [FG1_dst]; · iexact FG1_dst
    iexact Hrw
  icases Hj with ⟨%g2, %hg2, Hrw⟩
  have hr2 : RowsOK L Tx Ix 1 (2 * k.val + 1) g2 := RowsOK_of_eq1 (F := F) L Tx Ix hrows.2 hg2
  rw [sdiff_join_left rw_slots_disjoint.symm]
  -- the four sums of slot 1
  sl_for (innerInv1 (U := U) d L Tx Ix (2 * k.val + 1) g2) $$ [Hrw Hob]
  case region =>
    intro k3 x3
    exact HR1 (2 * k.val + 1) g2 hr2 k v2 _ k3 x3
  · unfold innerInv1
    iexists fobA; isplitr; · ipureintro; exact SumsOK_zero (F := F) L Tx Ix 1 _ _
    isplitl [Hrw]; · iexact Hrw
    iexact Hob
  iintro %_ HI
  unfold innerInv1
  icases HI with ⟨%fobB, %hsB, Hrw, Hob⟩
  have hsB4 : SumsOK L Tx Ix 1 (2 * k.val + 1) 4 fobB := hsB
  -- slot 1 copied out, its next gather started
  sl_exec
  sl_step
  -- the invariant, one trip on
  have h40 := lt_of_lt_of_eq k.isLt k0_trips_eq
  have hoff0 : k0_off21 k 0#32 = ![128 * (2 * (k.val + 1))] := by
    have h := k0_off21_eq k (0 : Fin 2)
    rw [show (BitVec.ofNat 32 ((0 : Fin 2) : ℕ)) = 0#32 from rfl] at h
    rw [h]; congr 1; simp; omega
  have hoff1 : k0_off21 k 1#32 = ![128 * (2 * (k.val + 1) + 1)] := by
    have h := k0_off21_eq k (1 : Fin 2)
    rw [show (BitVec.ofNat 32 ((1 : Fin 2) : ℕ)) = 1#32 from rfl] at h
    rw [h]; congr 1; simp; omega
  rw [if_neg (Nat.succ_ne_zero k.val), if_neg (Nat.succ_ne_zero k.val), Nat.add_sub_cancel, tFin_val]
  unfold oFl0 oFl1
  isplitr; · iexact Hmw
  isplitl [FG0 Hix0 FG1 Hix1]
  · iexists _; iexists _
    isplitr
    swap
    · isplitl [FG0 Hix0]
      · isplitl [FG0]; · iexact FG0
        iexact Hix0
      · isplitl [FG1]; · iexact FG1
        iexact Hix1
    ipureintro
    exact ⟨HG0 (2 * (k.val + 1)) (by omega) _ hoff0 _ _ _ _, HG1 (2 * (k.val + 1) + 1) (by omega) _ hoff1 _ _ _ _⟩
  isplitl [Hrw]; · iexists _; iexact Hrw
  isplitl [Hsh0]; · iexact Hsh0
  isplitl [Hsh1]; · iexact Hsh1
  isplitl [Hso0 Hso1 Hob]
  · iexists _; iexists _; iexists _; iexists _; iexists _
    isplitr
    swap
    · isplitl [Hso0]; · iexact Hso0
      isplitl [Hso1]; · iexact Hso1
      iexact Hob
    ipureintro
    exact ⟨HC0 k _ _ hsA4, HC1 k _ _ hsB4⟩
  isplitl [Hrest]; · iapply (rows_step0V (F := F) (U := U) d L Tx Ix k hk); iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
/-- A later trip: the previous trip's two copy-outs are pending. -/
theorem tripSV (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (HR0f : ∀ (n : ℕ) (h : Buf (Elt F) ((V d (cV L) (jV L)).loc cc0_scratch1)) (_ : RowsOK L Tx Ix 0 n h) (k : Fin k0_t1_loop.trips) (v2 : BitVec 32) (k2 : Fin k0_t2_loop.trips) (x : PUnit),
      innerInv0 (U := U) d L Tx Ix Finset.univ n h k2.val x ⊢ wp frame (wpE (defs₀ (F := F)) 𝒱₀ (V d (cV L) (jV L)) none) Set.univ
        (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k k2 x) (fun y => innerInv0 (U := U) d L Tx Ix Finset.univ n h (k2.val + 1) y))
    (HR0 : ∀ (n : ℕ) (h : Buf (Elt F) ((V d (cV L) (jV L)).loc cc0_scratch1)) (_ : RowsOK L Tx Ix 0 n h) (k : Fin k0_t1_loop.trips) (v2 : BitVec 32) (k2 : Fin k0_t2_loop.trips) (x : PUnit),
      innerInv0 (U := U) d L Tx Ix (Finset.univ \ (obK1).view.set) n h k2.val x ⊢ wp frame (wpE (defs₀ (F := F)) 𝒱₀ (V d (cV L) (jV L)) none) Set.univ
        (k0_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 (0#32) (1#32) k k2 x) (fun y => innerInv0 (U := U) d L Tx Ix (Finset.univ \ (obK1).view.set) n h (k2.val + 1) y))
    (HR1 : ∀ (n : ℕ) (h : Buf (Elt F) ((V d (cV L) (jV L)).loc cc0_scratch1)) (_ : RowsOK L Tx Ix 1 n h) (k : Fin k0_t1_loop.trips) (v2 arg11 : BitVec 32) (k3 : Fin k0_t3_loop.trips) (x : PUnit),
      innerInv1 (U := U) d L Tx Ix n h k3.val x ⊢ wp frame (wpE (defs₀ (F := F)) 𝒱₀ (V d (cV L) (jV L)) none) Set.univ
        (k0_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k arg11 k3 x) (fun y => innerInv1 (U := U) d L Tx Ix n h (k3.val + 1) y))
    (HG0 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 0 n (View.write (Elt F) (rwK0).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HG1 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 1 n (View.write (Elt F) (rwK1).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HC0 : ∀ (k : Fin k0_t1_loop.trips) (fc : S10240x128.Idx → Elt F .f32) (fob : S2x4x128.Idx → Elt F .f32), SumsOK L Tx Ix 0 (2 * k.val) 4 fob →
      ChunkOK L Tx Ix k 0 ((oChunkK L k 0).view.writes (Elt F) fc [⟨Rect.whole S4x128, ReadAs.same.apply ((obK0).view.read (Elt F) fob)⟩]))
    (HC1 : ∀ (k : Fin k0_t1_loop.trips) (fc : S10240x128.Idx → Elt F .f32) (fob : S2x4x128.Idx → Elt F .f32), SumsOK L Tx Ix 1 (2 * k.val + 1) 4 fob →
      ChunkOK L Tx Ix k 1 ((oChunkK L k 1).view.writes (Elt F) fc [⟨Rect.whole S4x128, ReadAs.same.apply ((obK1).view.read (Elt F) fob)⟩]))
    (O : CellTallies nD τ sig (HIx 3)) (W : Waits sig (HIx 3)) (v2 : BitVec 32)
    (k : Fin k0_t1_loop.trips) (hk : k.val ≠ 0) (x : PUnit) :
    tripInvV (U := U) d L Tx Ix O W k.val x
      ⊢ wp frame (wpE (defs₀ (F := F)) 𝒱₀ (V d (cV L) (jV L)) none) Set.univ
          (k0_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k x)
          fun y => tripInvV (U := U) d L Tx Ix O W (k.val + 1) y := by
  have hc1 := cond1_pos k hk
  have hc2 := cond2_pos k hk
  have hrow : (k.val + 1 ≠ k.val) := Nat.succ_ne_self _
  unfold tripInvV
  rw [if_neg hk, if_neg hk]
  unfold gFl0 gFl1 oFl0 oFl1
  iintro ⟨#Hmw, ⟨%fr0, %fr1, %hrows, ⟨FG0, Hix0⟩, ⟨FG1, Hix1⟩⟩, ⟨%frr, Hrwr⟩, Hsh0, Hsh1, ⟨%fob, %fc0p, %fc1p, %fob0, %fob1, %hchk, FO0, FO1, Hobr⟩, Hrows, ⟨%W', %hW', HO⟩⟩
  ihave Hr := (Entails.of_eq (SparseCore.bigSep_erase' (Φ := fun t' : Fin k0_t1_loop.trips => rowStV (U := U) (F := F) d L Tx Ix k.val t') (Finset.mem_univ k))) $$ Hrows
  icases Hr with ⟨Hrow, Hrest⟩
  ihave Hrow' := (Entails.of_eq (rowStV_todo (F := F) (U := U) d L Tx Ix hrow (Nat.lt_irrefl _))) $$ Hrow
  icases Hrow' with ⟨⟨%fc0, Hoc0⟩, ⟨%fc1, Hoc1⟩⟩
  unfold k0_t1_body
  -- slot 0: its gather waited for
  sl_exec
  -- slot 0 of the row scratch, back from its gather, joined to what is held of the scratch
  ihave Hj := (pts_joinV (F := F) (U := U) (sdiff_join_disj rw_slots_disjoint) fr0 frr) $$ [FG0_dst Hrwr]
  · isplitl [FG0_dst]; · iexact FG0_dst
    iexact Hrwr
  icases Hj with ⟨%g1, %hg1, Hrw⟩
  have hr1 : RowsOK L Tx Ix 0 (2 * k.val) g1 := RowsOK_of_eq0 (F := F) L Tx Ix hrows.1 hg1
  rw [sdiff_join_left rw_slots_disjoint]
  -- slot 0 of the result scratch, back from its copy-out, joined to what is held of the scratch
  ihave Hjo := (pts_join (F := F) (U := U) (sdiff_join_disj ob_slots_disjoint) fob0 fob) $$ [FO0_src Hobr]
  · isplitl [FO0_src]; · iexact FO0_src
    iexact Hobr
  icases Hjo with ⟨%go1, Hob⟩
  rw [sdiff_join_left ob_slots_disjoint]
  -- the four sums of slot 0
  sl_for (innerInv0 (U := U) d L Tx Ix (Finset.univ \ (obK1).view.set) (2 * k.val) g1) $$ [Hrw Hob]
  case region =>
    intro k2 x2
    exact HR0 (2 * k.val) g1 hr1 k v2 k2 x2
  · unfold innerInv0
    iexists go1; isplitr; · ipureintro; exact SumsOK_zero (F := F) L Tx Ix 0 _ _
    isplitl [Hrw]; · iexact Hrw
    iexact Hob
  iintro %_ HI
  unfold innerInv0
  icases HI with ⟨%fobA, %hsA, Hrw, Hob⟩
  have hsA4 : SumsOK L Tx Ix 0 (2 * k.val) 4 fobA := hsA
  -- slot 0 copied out, its next gather started; slot 1's gather waited for
  sl_exec
  -- slot 1 of the row scratch joined
  ihave Hj := (pts_joinV (F := F) (U := U) (sdiff_join_disj rw_slots_disjoint.symm) fr1 _) $$ [FG1_dst Hrw]
  · isplitl [FG1_dst]; · iexact FG1_dst
    iexact Hrw
  icases Hj with ⟨%g2, %hg2, Hrw⟩
  have hr2 : RowsOK L Tx Ix 1 (2 * k.val + 1) g2 := RowsOK_of_eq1 (F := F) L Tx Ix hrows.2 hg2
  rw [sdiff_join_left rw_slots_disjoint.symm]
  -- slot 1 of the result scratch joined
  ihave Hjo := (pts_join (F := F) (U := U) (sdiff_join_disj ob_slots_disjoint.symm) fob1 _) $$ [FO1_src Hob]
  · isplitl [FO1_src]; · iexact FO1_src
    iexact Hob
  icases Hjo with ⟨%go2, Hob⟩
  rw [sdiff_join_left ob_slots_disjoint.symm]
  -- the four sums of slot 1
  sl_for (innerInv1 (U := U) d L Tx Ix (2 * k.val + 1) g2) $$ [Hrw Hob]
  case region =>
    intro k3 x3
    exact HR1 (2 * k.val + 1) g2 hr2 k v2 _ k3 x3
  · unfold innerInv1
    iexists go2; isplitr; · ipureintro; exact SumsOK_zero (F := F) L Tx Ix 1 _ _
    isplitl [Hrw]; · iexact Hrw
    iexact Hob
  iintro %_ HI
  unfold innerInv1
  icases HI with ⟨%fobB, %hsB, Hrw, Hob⟩
  have hsB4 : SumsOK L Tx Ix 1 (2 * k.val + 1) 4 fobB := hsB
  -- slot 1 copied out, its next gather started
  sl_exec
  sl_step
  -- the invariant, one trip on
  have h40 := lt_of_lt_of_eq k.isLt k0_trips_eq
  have hoff0 : k0_off21 k 0#32 = ![128 * (2 * (k.val + 1))] := by
    have h := k0_off21_eq k (0 : Fin 2)
    rw [show (BitVec.ofNat 32 ((0 : Fin 2) : ℕ)) = 0#32 from rfl] at h
    rw [h]; congr 1; simp; omega
  have hoff1 : k0_off21 k 1#32 = ![128 * (2 * (k.val + 1) + 1)] := by
    have h := k0_off21_eq k (1 : Fin 2)
    rw [show (BitVec.ofNat 32 ((1 : Fin 2) : ℕ)) = 1#32 from rfl] at h
    rw [h]; congr 1; simp; omega
  rw [if_neg (Nat.succ_ne_zero k.val), if_neg (Nat.succ_ne_zero k.val), Nat.add_sub_cancel, tFin_val]

  isplitr; · iexact Hmw
  isplitl [FG0 Hix0 FG1 Hix1]
  · iexists _; iexists _
    isplitr
    swap
    · isplitl [FG0 Hix0]
      · isplitl [FG0]; · iexact FG0
        iexact Hix0
      · isplitl [FG1]; · iexact FG1
        iexact Hix1
    ipureintro
    exact ⟨HG0 (2 * (k.val + 1)) (by omega) _ hoff0 _ _ _ _, HG1 (2 * (k.val + 1) + 1) (by omega) _ hoff1 _ _ _ _⟩
  isplitl [Hrw]; · iexists _; iexact Hrw
  isplitl [Hsh0]; · iexact Hsh0
  isplitl [Hsh1]; · iexact Hsh1
  isplitl [FO0 FO1 Hob]
  · iexists _; iexists _; iexists _; iexists _; iexists _
    isplitr
    swap
    · isplitl [FO0]; · iexact FO0
      isplitl [FO1]; · iexact FO1
      iexact Hob
    ipureintro
    exact ⟨HC0 k _ _ hsA4, HC1 k _ _ hsB4⟩
  isplitl [Hrest FO0_dst FO1_dst]
  · iapply (rows_stepSV (F := F) (U := U) d L Tx Ix k hk fc0p fc1p hchk.1 hchk.2)
    isplitl [Hrest]; · iexact Hrest
    isplitl [FO0_dst]; · iexact FO0_dst
    iexact FO1_dst
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One trip of the forty, with what the buffers hold. -/
theorem trip_regionV (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k0_t1_loop.trips) (x : PUnit) :
    tripInvV (U := U) d L Tx Ix O W k.val x
      ⊢ wp frame (wpE (defs₀ (F := F)) 𝒱₀ (V d (cV L) (jV L)) none) Set.univ
          (k0_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1 v2 k x)
          fun y => tripInvV (U := U) d L Tx Ix O W (k.val + 1) y := by
  by_cases hk : k.val = 0
  · exact trip0V (F := F) (U := U) d L Tx Ix hinR
      (fun n h hr k v2 k2 x => inner_region0_first (F := F) (U := U) d L Tx Ix n h hr k v2 k2 x)
      (fun n h hr k v2 k2 x => inner_region0 (F := F) (U := U) d L Tx Ix n h hr k v2 k2 x)
      (fun n h hr k v2 a k3 x => inner_region1 (F := F) (U := U) d L Tx Ix n h hr k v2 a k3 x)
      (fun n hn off hoff inb g hnum hin' => rows_ok0 (F := F) L Tx Ix n hn off hoff inb g hnum hin')
      (fun n hn off hoff inb g hnum hin' => rows_ok1 (F := F) L Tx Ix n hn off hoff inb g hnum hin')
      (fun k fc fob hs => chunk_ok0 (F := F) L Tx Ix k fc fob hs)
      (fun k fc fob hs => chunk_ok1 (F := F) L Tx Ix k fc fob hs)
      O W v2 k hk x
  · exact tripSV (F := F) (U := U) d L Tx Ix hinR
      (fun n h hr k v2 k2 x => inner_region0_first (F := F) (U := U) d L Tx Ix n h hr k v2 k2 x)
      (fun n h hr k v2 k2 x => inner_region0 (F := F) (U := U) d L Tx Ix n h hr k v2 k2 x)
      (fun n h hr k v2 a k3 x => inner_region1 (F := F) (U := U) d L Tx Ix n h hr k v2 a k3 x)
      (fun n hn off hoff inb g hnum hin' => rows_ok0 (F := F) L Tx Ix n hn off hoff inb g hnum hin')
      (fun n hn off hoff inb g hnum hin' => rows_ok1 (F := F) L Tx Ix n hn off hoff inb g hnum hin')
      (fun k fc fob hs => chunk_ok0 (F := F) L Tx Ix k fc fob hs)
      (fun k fc fob hs => chunk_ok1 (F := F) L Tx Ix k fc fob hs)
      O W v2 k hk x

end Body
end Cert.Proof.TileB
end
-- ==== Proof.BodyGenK.lean ====
/-
  The gather-sum kernel on one vector subcore, stated over ANY schedule of the barrier cells.

  The subcore's run uses the barrier's schedule only through five facts at the call's round: every sibling's cell names
  the subcore as a duty of the round, each such duty is one unit, the subcore's own round expects sixteen units, the
  staged stripe splits into what is kept and what the sixteen duties hand over, and what the subcore's own round
  collects is its read share of the whole shared table.  With these as hypotheses, and the round and the call's number
  as parameters, one text serves every call and whatever schedule the launch fixed.  The forty trips' step is a
  hypothesis too.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsK
import proofs.«205366_g3083786518796_cont_9to1_852_38_alg».proof.Proof.BodyLemmasK
import proofs.«205366_g3083786518796_cont_9to1_852_38_alg».proof.Proof.BodyInvK
import proofs.«205366_g3083786518796_cont_9to1_852_38_alg».proof.Proof.BodyJoinK

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

section Body
variable (d : Dev nD) (L : grid0.Coords)

/-- The barrier kit over a schedule `Rd`, for round `r` (call `q`): every subcore's cell invariant of its SparseCore, its duty
    token in every subcore's round `r`, that each has reached round `r`, its own position at the origin of round `r`, and
    the credit for the sixteen units of its own round. -/
def bkitR (EB : Emb (URounds (GSem nD τ sig) ℕ) (MT nD τ sig (HIx 3) (Elt F) ℕ U ℕ)) (Rd : Rounds.Schedule (GSem nD τ sig) ℕ 𝕄) (r : ℕ) (q : Fin 3) (d : Dev nD) (c : Fin τ.nSC) (i : Fin τ.nSub) : sProp 𝕄 :=
  iprop((∃ κ : GSem nD τ sig → ℕ, bigSep Finset.univ fun j : Fin (grid0.bound 1) =>
      cellInv EB Rd (κ (bcell d c (j.castLE hsub0))) (bcell d c (j.castLE hsub0)))
    ∗ (bigSep Finset.univ fun j : Fin (grid0.bound 1) => dutyTok EB (bcell d c (j.castLE hsub0)) r i.val)
    ∗ (bigSep Finset.univ fun j : Fin (grid0.bound 1) => reached (D := ℕ) EB (bcell d c (j.castLE hsub0)) r)
    ∗ atPos EB (bcell d c i) r (∅ : Finset ℕ) 0
    ∗ cred (tallyAt (bcell d c i) (some q) (grid0.bound 1)))

set_option maxHeartbeats 4000000 in
/-- The kernel on vector subcore `L`: the index row and the stripe copied in and waited for (the executor); the barrier
    (the stripe's read shares handed over, every stripe's received); the two first gathers; the forty trips (the invariant
    `tripInv`, each trip `trip_region`); the four last waits. -/
theorem tile_body_gen (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid0.bound 1), (jV L).val ∈ Rd.duties (bcell d (cV L) (j.castLE hsub0)) rC)
    (hamt : ∀ j : Fin (grid0.bound 1), Rd.amount (bcell d (cV L) (j.castLE hsub0)) rC (jV L).val = 1)
    (hexp : 0 + grid0.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid0.bound 1) => Rd.payload (bcell d (cV L) (j.castLE hsub0)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (htrip : ∀ (v2 : BitVec 32) (k : Fin k0_t1_loop.trips) (x : PUnit),
      tripInv (F := F) (U := U) d L Tx Ix O
          (insert (SemLoc.reg sc_bar0, some qC) (insert (SemLoc.dma cc0_scoped1.sem, (default : HIx 3)) (insert (SemLoc.dma cc0_scoped0.sem, (default : HIx 3)) W))) k.val x
        ⊢ wp frame (wpE (defs₀ (F := F)) 𝒱₀ (V d (cV L) (jV L)) none) Set.univ
            (k0_t1_body L xV (Memref.isWhole_whole _) iV (Memref.isWhole_whole _) oV (Memref.isWhole_whole _)
              ixV (Memref.isWhole_whole _) rwV (Memref.isWhole_whole _) obV (Memref.isWhole_whole _) shV (Memref.isWhole_whole _)
              cc0_scratch4 cc0_scratch5 cc0_scoped0 cc0_scoped1 v2 k x)
            (tripInv (F := F) (U := U) d L Tx Ix O
              (insert (SemLoc.reg sc_bar0, some qC) (insert (SemLoc.dma cc0_scoped1.sem, (default : HIx 3)) (insert (SemLoc.dma cc0_scoped0.sem, (default : HIx 3)) W))) (k.val + 1)))
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f))
        ∗ (semVal (cell d L cc0_scoped0.sem) 0 ∗ semVal (cell d L cc0_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc0__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1)
          fun _ => iprop(tdT d L qx qi Tx Ix
            ∗ (atPos EB (bcell d (cV L) (jV L)) (rC + 1) (∅ : Finset ℕ) 0 ∗ reached (D := ℕ) EB (bcell d (cV L) (jV L)) (rC + 1))
            ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f))
            ∗ (semVal (cell d L cc0_scoped0.sem) 0 ∗ semVal (cell d L cc0_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') := by
  simp only [cc0__sc_gather_sum_eq_skeleton]; unfold cc0__sc_gather_sum_skel
  unfold bkitR goT
  iintro ⟨#Hlv, ⟨⟨%κ, #Hinv⟩, Htoks, #Hrch, Hat, Hcred⟩, ⟨Hx, Hi, Ho, %fsh, Hsh⟩, ⟨⟨%f0, Hb0⟩, ⟨%f1, Hb1⟩, ⟨%f2, Hb2⟩⟩, ⟨HsA, HsB, Hg0, Hg1, Ho0, Ho1⟩, HO⟩
  have hO' : ∀ g, (O + oxV d (cV L) qC) g none = 0 := fun g => by rw [Pi.add_apply, Finsupp.add_apply, hO g, oxV_none]
  ihave Hmw1 := (show levAts (K (F := F)).L (K (F := F)).lev ⊢ Transfers.MayWaits (V d (cV L) (jV L)) (default : HIx 3) (O + oxV d (cV L) qC) from
    (K (F := F)).mayWaits_none (thr := V d (cV L) (jV L)) hO') $$ Hlv
  ihave Hmw2 := (show levAts (K (F := F)).L (K (F := F)).lev ⊢ Transfers.MayWaits (V d (cV L) (jV L)) (default : HIx 3) O from
    (K (F := F)).mayWaits_none (thr := V d (cV L) (jV L)) hO) $$ Hlv
  ihave Hx' := (Entails.of_eq (pts_x (F := F) (U := U) d L _ _).symm) $$ Hx
  ihave Hi' := (Entails.of_eq (pts_iRow (F := F) (U := U) d L _ _).symm) $$ Hi
  ihave Hsh' := (Entails.of_eq (pts_shStripe (F := F) (U := U) d L _ _).symm) $$ Hsh
  ihave Hix' := (Entails.of_eq (pts_ix (F := F) (U := U) d L _).symm) $$ Hb0
  ihave Hrw' := (Entails.of_eq (pts_rw (F := F) (U := U) d L _).symm) $$ Hb1
  ihave Hob' := (Entails.of_eq (pts_ob (F := F) (U := U) d L _).symm) $$ Hb2
  -- the index row into the index scratch, the stripe into the shared table, each waited for
  sl_exec (disch := first | exact View.amount_pos _ _ (stripe_numel_pos L) | exact View.dmaCredit_pos _ (stripe_numel_pos L))
  -- the barrier: the stripe, holding the table's rows, handed over by read shares; every stripe's share received
  unfold tile_body_gen.sl.dma0_1 tile_body_gen.sl.dma0
  ihave Hsh3 := (stripe_fix (F := F) (U := U) d L Tx fsh) $$ Hsh'
  ihave Hpk := hin_pay $$ Hsh3
  icases Hpk with ⟨Hkeep, Hpays⟩
  iapply (SparseCore.wp_subcoreBarrier 𝒱₀ none EB Rd d (sc := cV L) (i := jV L) sc_bar0 (grid0.bound 1) hsub0 (L 1) rfl κ (fun _ => rC) (jV L).val
      hmem hamt hexp (some qC) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) (8 * qC.val + 3) (fun p hp => by
        rw [Finset.mem_singleton] at hp; subst hp
        show (K (F := F)).lev (bcell d (cV L) (jV L)) (some qC) ≤ 8 * qC.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hrch1, Hgot⟩
  ihave Hall := hout_pay $$ Hgot
  -- the index scratch holds row `wid`; every window of it names rows of the table
  ihave Hix2 := (idx_fix (F := F) (U := U) d L Ix f0) $$ Hix'
  have hinR := idx_inb (F := F) L Ix hin
  ihave Hall' := (Entails.of_eq (show ((shV).view.loc (V d (cV L) (jV L)) ↦{shTok (jV L)} Tx : sProp 𝕄) = shLoc d (cV L) ↦{shTok (jV L)} Tx from rfl).symm) $$ Hall
  ihave HallS := (pointsTo_share (PosShare.mem_left_op_right (shTok (jV L)))).1 $$ Hall'
  icases HallS with ⟨HallA, HallB⟩
  ihave HixS := (pointsTo_share (PosShare.mem_left_op_right fullShare)).1 $$ Hix2
  icases HixS with ⟨HixA, HixB⟩
  -- the two first gathers
  sl_exec
  -- the forty trips
  sl_for (tripInv d L Tx Ix O (insert (SemLoc.reg sc_bar0, some qC) (insert (SemLoc.dma cc0_scoped1.sem, (default : HIx 3)) (insert (SemLoc.dma cc0_scoped0.sem, (default : HIx 3)) W)))) $$ [Hmw2 Hg0 Hg1 HixA HixB HallA HallB Hrw' Hob' Ho0 Ho1 Ho HO]
  case region =>
    intro k x
    unfold tile_body_gen.sl.prog.body_1
    exact htrip _ k x
  · unfold tripInv
    simp only [↓reduceIte]
    unfold gFl0 gFl1
    isplitr; · iexact Hmw2
    isplitl [Hg0 Hg1 HixA HixB]
    · iexists _; iexists _
      isplitl [Hg0 HixA]
      · isplitl [Hg0]; · iexact Hg0
        iexact HixA
      · isplitl [Hg1]; · iexact Hg1
        iexact HixB
    isplitl [Hrw']; · iexists _; iexact Hrw'
    isplitl [HallA]; · iexact HallA
    isplitl [HallB]; · iexact HallB
    isplitl [Hob' Ho0 Ho1]
    · iexists _
      isplitl [Hob']; · iexact Hob'
      isplitl [Ho0]; · iexact Ho0
      iexact Ho1
    isplitl [Ho]; · iapply (rows_of_chunks (F := F) (U := U) d L fo); iexact Ho
    iexists _; isplitr
    · ipureintro; exact fun p hp => .inl hp
    · iexact HO
  iintro %_ HI
  have htr : Scf.trips k0_t1_loop.lb k0_t1_loop.ub k0_t1_loop.st = 40 := by decide
  rw [htr]
  unfold tripInv
  simp only [show (40 : ℕ) ≠ 0 by decide, ↓reduceIte, show (40 : ℕ) - 1 = 39 by decide]
  unfold gFl0 gFl1 oFl0 oFl1
  icases HI with ⟨-, ⟨%fr0, %fr1, ⟨FG0, Hix0⟩, ⟨FG1, Hix1⟩⟩, ⟨%frr, Hrwr⟩, Hsh0, Hsh1, ⟨%fob, %fc0, %fc1, %fob0, %fob1, FO0, FO1, Hobr⟩, Hrows, ⟨%W', %hW', HO⟩⟩
  sl_exec
  sl_step
  unfold tdT
  -- the table's and the index row's shares, the result chunks, the shared table's read share and the kept remainder
  isplitl [Hx' Hi' Hrows FO0_dst FO1_dst Hsh0 Hsh1 Hkeep]
  · isplitl [Hx']; · iexact Hx'
    isplitl [Hi']; · iexact Hi'
    isplitl [Hrows FO0_dst FO1_dst]
    · iapply (rows_close (F := F) (U := U) d L fc0 fc1)
      isplitl [Hrows]; · iexact Hrows
      isplitl [FO0_dst]; · iexact FO0_dst
      iexact FO1_dst
    isplitl [Hsh0 Hsh1]
    · iapply (pointsTo_share (PosShare.mem_left_op_right (shTok (jV L)))).2
      isplitl [Hsh0]; · iexact Hsh0
      iexact Hsh1
    iexact Hkeep
  isplitl [Hat Hrch1]
  · isplitl [Hat]; · iexact Hat
    iexact Hrch1
  -- the scratches, whole again
  isplitl [Hix0 Hix1 FG0_dst FG1_dst Hrwr FO0_src FO1_src Hobr]
  · isplitl [Hix0 Hix1]
    · iexists _
      iapply (pointsTo_share (PosShare.mem_left_op_right fullShare)).2
      isplitl [Hix0]; · iexact Hix0
      iexact Hix1
    isplitl [FG0_dst FG1_dst Hrwr]
    · ihave H1 := (pts_join (F := F) (U := U) (sdiff_join_disj rw_slots_disjoint) fr0 frr) $$ [FG0_dst Hrwr]
      · isplitl [FG0_dst]; · iexact FG0_dst
        iexact Hrwr
      icases H1 with ⟨%g1, H1⟩
      rw [sdiff_join_left rw_slots_disjoint]
      ihave H2 := (pts_join (F := F) (U := U) Finset.disjoint_sdiff fr1 g1) $$ [FG1_dst H1]
      · isplitl [FG1_dst]; · iexact FG1_dst
        iexact H1
      icases H2 with ⟨%g2, H2⟩
      rw [sdiff_join_all]
      iexists g2; iexact H2
    · ihave H1 := (pts_join (F := F) (U := U) (sdiff_join_disj ob_slots_disjoint) fob0 fob) $$ [FO0_src Hobr]
      · isplitl [FO0_src]; · iexact FO0_src
        iexact Hobr
      icases H1 with ⟨%g1, H1⟩
      rw [sdiff_join_left ob_slots_disjoint]
      ihave H2 := (pts_join (F := F) (U := U) Finset.disjoint_sdiff fob1 g1) $$ [FO1_src H1]
      · isplitl [FO1_src]; · iexact FO1_src
        iexact H1
      icases H2 with ⟨%g2, H2⟩
      rw [sdiff_join_all]
      iexists g2; iexact H2
  -- the six semaphores at zero
  isplitl [HsA HsB FG0 FG1 FO0 FO1]
  · isplitl [HsA]; · iexact HsA
    isplitl [HsB]; · iexact HsB
    isplitl [FG0]; · iexact FG0
    isplitl [FG1]; · iexact FG1
    isplitl [FO0]; · iexact FO0
    iexact FO1
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

end Body
end Cert.Proof.TileB
end
-- ==== Proof.BodyGenVK.lean ====
/-
  The gather-sum kernel on one vector subcore, stated over ANY schedule of the barrier cells.

  The subcore's run uses the barrier's schedule only through five facts at the call's round: every sibling's cell names
  the subcore as a duty of the round, each such duty is one unit, the subcore's own round expects sixteen units, the
  staged stripe splits into what is kept and what the sixteen duties hand over, and what the subcore's own round
  collects is its read share of the whole shared table.  With these as hypotheses, and the round and the call's number
  as parameters, one text serves every call and whatever schedule the launch fixed.  The forty trips' step is a
  hypothesis too.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsK
import proofs.«205366_g3083786518796_cont_9to1_852_38_alg».proof.Proof.BodyLemmasK
import proofs.«205366_g3083786518796_cont_9to1_852_38_alg».proof.Proof.BodyInvK
import proofs.«205366_g3083786518796_cont_9to1_852_38_alg».proof.Proof.BodyJoinK
import proofs.«205366_g3083786518796_cont_9to1_852_38_alg».proof.Proof.BodyGenK
import proofs.«205366_g3083786518796_cont_9to1_852_38_alg».proof.Proof.BodyStepVK
import proofs.«205366_g3083786518796_cont_9to1_852_38_alg».proof.Proof.BodyStepsVK

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

section Body
variable (d : Dev nD) (L : grid0.Coords)

open Idealize.ShloMosaic.ValueIdx (ix1 ix2 ix3)

section GV
variable (Tx : S10000x128.Idx → Elt F .f32) (Ix : S32x10496.Idx → Elt F .i32)

/-- Handed back, with what the chunks hold: as `tdT`, every result chunk at its rows of the neighbour-sum array. -/
def tdTV (qx qi : PosShare TreeShare) : sProp 𝕄 :=
  iprop((xLoc d ↦{qx} Tx) ∗ (iLoc d ↦[iRowSet L]{qi} Ix)
    ∗ (bigSep Finset.univ fun tb : Fin k0_t1_loop.trips × Fin 2 =>
        iprop(∃ f, (oLoc d ↦[oChunkSet L tb.1 tb.2]{fullShare} f) ∗ ⌜∀ x ∈ oChunkSet L tb.1 tb.2, f x = Cert.Proof.KB.gsumF (F := F) Tx Ix x⌝))
    ∗ (shLoc d (cV L) ↦{shTok (jV L)} Tx) ∗ (shLoc d (cV L) ↦[stripe (jL L)]{shKeep} Tx))

theorem rows_of_chunksV (fo : S10240x128.Idx → Elt F .f32) :
    (bigSep Finset.univ fun tb : Fin k0_t1_loop.trips × Fin 2 => (oLoc d ↦[oChunkSet L tb.1 tb.2]{fullShare} fo : sProp 𝕄))
    ⊢ bigSep Finset.univ fun t' : Fin k0_t1_loop.trips => rowStV (U := U) d L Tx Ix 0 t' := by
  rw [bigSep_univ_prod]
  refine bigSep_mono fun t' _ => ?_
  rw [bigSep_univ_two, rowStV_todo (F := F) (U := U) d L Tx Ix (Nat.succ_ne_zero _) (Nat.not_lt_zero _)]
  exact row_intro (F := F) (U := U) d L t' fo

theorem row_elimV (t' : Fin k0_t1_loop.trips) :
    (iprop((∃ f, ⌜ChunkOK L Tx Ix t' 0 f⌝ ∗ ((oChunkK L t' 0).view.loc (V d (cV L) (jV L)) ↦[(oChunkK L t' 0).view.set]{fullShare} f))
      ∗ (∃ f, ⌜ChunkOK L Tx Ix t' 1 f⌝ ∗ ((oChunkK L t' 1).view.loc (V d (cV L) (jV L)) ↦[(oChunkK L t' 1).view.set]{fullShare} f))) : sProp 𝕄)
    ⊢ iprop((∃ f, (oLoc d ↦[oChunkSet L t' 0]{fullShare} f) ∗ ⌜∀ x ∈ oChunkSet L t' 0, f x = Cert.Proof.KB.gsumF (F := F) Tx Ix x⌝)
        ∗ (∃ f, (oLoc d ↦[oChunkSet L t' 1]{fullShare} f) ∗ ⌜∀ x ∈ oChunkSet L t' 1, f x = Cert.Proof.KB.gsumF (F := F) Tx Ix x⌝)) := by
  iintro ⟨⟨%f0, %h0, H0⟩, ⟨%f1, %h1, H1⟩⟩
  isplitl [H0]
  · iexists f0; isplitl [H0]
    · iapply (Entails.of_eq (pts_oChunk (F := F) (U := U) d L t' 0 f0)); iexact H0
    · ipureintro; exact h0
  · iexists f1; isplitl [H1]
    · iapply (Entails.of_eq (pts_oChunk (F := F) (U := U) d L t' 1 f1)); iexact H1
    · ipureintro; exact h1

/-- All result chunks held again, each at its rows of the neighbour-sum array. -/
theorem rows_closeV (fc0 fc1 : S10240x128.Idx → Elt F .f32) (h0 : ChunkOK L Tx Ix (tFin 39) 0 fc0) (h1 : ChunkOK L Tx Ix (tFin 39) 1 fc1) :
    iprop((bigSep Finset.univ fun t' : Fin k0_t1_loop.trips => rowStV (U := U) (F := F) d L Tx Ix 40 t')
      ∗ ((oChunkK L (tFin 39) 0).view.loc (V d (cV L) (jV L)) ↦[(oChunkK L (tFin 39) 0).view.set]{fullShare} fc0)
      ∗ ((oChunkK L (tFin 39) 1).view.loc (V d (cV L) (jV L)) ↦[(oChunkK L (tFin 39) 1).view.set]{fullShare} fc1))
    ⊢ bigSep Finset.univ fun tb : Fin k0_t1_loop.trips × Fin 2 =>
        (iprop(∃ f, (oLoc d ↦[oChunkSet L tb.1 tb.2]{fullShare} f) ∗ ⌜∀ x ∈ oChunkSet L tb.1 tb.2, f x = Cert.Proof.KB.gsumF (F := F) Tx Ix x⌝) : sProp 𝕄) := by
  rw [bigSep_univ_prod]
  have hrest : Idealize.SL.BI.Entails
      (bigSep (Finset.univ.erase (tFin 39)) fun t' : Fin k0_t1_loop.trips => rowStV (U := U) (F := F) d L Tx Ix 40 t')
      (bigSep (Finset.univ.erase (tFin 39)) fun t' : Fin k0_t1_loop.trips => bigSep Finset.univ fun b : Fin 2 =>
        (iprop(∃ f, (oLoc d ↦[oChunkSet L (t', b).1 (t', b).2]{fullShare} f) ∗ ⌜∀ x ∈ oChunkSet L (t', b).1 (t', b).2, f x = Cert.Proof.KB.gsumF (F := F) Tx Ix x⌝) : sProp 𝕄)) :=
    bigSep_mono fun t' ht' => by
      have hne : t'.val + 1 ≠ 40 := fun h => (Finset.mem_erase.mp ht').1 (Fin.ext (by show t'.val = min 39 39; omega))
      have hlt : t'.val < 40 := lt_of_lt_of_eq t'.isLt k0_trips_eq
      rw [bigSep_univ_two, rowStV_done (F := F) (U := U) d L Tx Ix hne hlt]
      exact row_elimV (F := F) (U := U) d L Tx Ix t'
  iintro ⟨Hrows, H0, H1⟩
  ihave Hr := (Entails.of_eq (SparseCore.bigSep_erase' (Φ := fun t' : Fin k0_t1_loop.trips => rowStV (U := U) (F := F) d L Tx Ix 40 t') (Finset.mem_univ (tFin 39)))) $$ Hrows
  icases Hr with ⟨-, Hrest⟩
  iapply (Entails.of_eq (SparseCore.bigSep_erase' (Φ := fun t' : Fin k0_t1_loop.trips => bigSep Finset.univ fun b : Fin 2 =>
    (iprop(∃ f, (oLoc d ↦[oChunkSet L (t', b).1 (t', b).2]{fullShare} f) ∗ ⌜∀ x ∈ oChunkSet L (t', b).1 (t', b).2, f x = Cert.Proof.KB.gsumF (F := F) Tx Ix x⌝) : sProp 𝕄)) (Finset.mem_univ (tFin 39))).symm)
  isplitl [H0 H1]
  · rw [bigSep_univ_two]
    isplitl [H0]
    · iexists fc0; isplitl [H0]
      · iapply (Entails.of_eq (pts_oChunk (F := F) (U := U) d L (tFin 39) 0 fc0)); iexact H0
      · ipureintro; exact h0
    · iexists fc1; isplitl [H1]
      · iapply (Entails.of_eq (pts_oChunk (F := F) (U := U) d L (tFin 39) 1 fc1)); iexact H1
      · ipureintro; exact h1
  · iapply (SparseCore.ent hrest) $$ Hrest

end GV

set_option maxHeartbeats 4000000 in
/-- The kernel on vector subcore `L`: the index row and the stripe copied in and waited for (the executor); the barrier
    (the stripe's read shares handed over, every stripe's received); the two first gathers; the forty trips (the invariant
    `tripInv`, each trip `trip_region`); the four last waits. -/
theorem tile_body_genV (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid0.bound 1), (jV L).val ∈ Rd.duties (bcell d (cV L) (j.castLE hsub0)) rC)
    (hamt : ∀ j : Fin (grid0.bound 1), Rd.amount (bcell d (cV L) (j.castLE hsub0)) rC (jV L).val = 1)
    (hexp : 0 + grid0.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid0.bound 1) => Rd.payload (bcell d (cV L) (j.castLE hsub0)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (htrip : ∀ (v2 : BitVec 32) (k : Fin k0_t1_loop.trips) (x : PUnit),
      tripInvV (F := F) (U := U) d L Tx Ix O
          (insert (SemLoc.reg sc_bar0, some qC) (insert (SemLoc.dma cc0_scoped1.sem, (default : HIx 3)) (insert (SemLoc.dma cc0_scoped0.sem, (default : HIx 3)) W))) k.val x
        ⊢ wp frame (wpE (defs₀ (F := F)) 𝒱₀ (V d (cV L) (jV L)) none) Set.univ
            (k0_t1_body L xV (Memref.isWhole_whole _) iV (Memref.isWhole_whole _) oV (Memref.isWhole_whole _)
              ixV (Memref.isWhole_whole _) rwV (Memref.isWhole_whole _) obV (Memref.isWhole_whole _) shV (Memref.isWhole_whole _)
              cc0_scratch4 cc0_scratch5 cc0_scoped0 cc0_scoped1 v2 k x)
            (tripInvV (F := F) (U := U) d L Tx Ix O
              (insert (SemLoc.reg sc_bar0, some qC) (insert (SemLoc.dma cc0_scoped1.sem, (default : HIx 3)) (insert (SemLoc.dma cc0_scoped0.sem, (default : HIx 3)) W))) (k.val + 1)))
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f))
        ∗ (semVal (cell d L cc0_scoped0.sem) 0 ∗ semVal (cell d L cc0_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc0__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1)
          fun _ => iprop(tdTV d L Tx Ix qx qi
            ∗ (atPos EB (bcell d (cV L) (jV L)) (rC + 1) (∅ : Finset ℕ) 0 ∗ reached (D := ℕ) EB (bcell d (cV L) (jV L)) (rC + 1))
            ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f))
            ∗ (semVal (cell d L cc0_scoped0.sem) 0 ∗ semVal (cell d L cc0_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') := by
  simp only [cc0__sc_gather_sum_eq_skeleton]; unfold cc0__sc_gather_sum_skel
  unfold bkitR goT
  iintro ⟨#Hlv, ⟨⟨%κ, #Hinv⟩, Htoks, #Hrch, Hat, Hcred⟩, ⟨Hx, Hi, Ho, %fsh, Hsh⟩, ⟨⟨%f0, Hb0⟩, ⟨%f1, Hb1⟩, ⟨%f2, Hb2⟩⟩, ⟨HsA, HsB, Hg0, Hg1, Ho0, Ho1⟩, HO⟩
  have hO' : ∀ g, (O + oxV d (cV L) qC) g none = 0 := fun g => by rw [Pi.add_apply, Finsupp.add_apply, hO g, oxV_none]
  ihave Hmw1 := (show levAts (K (F := F)).L (K (F := F)).lev ⊢ Transfers.MayWaits (V d (cV L) (jV L)) (default : HIx 3) (O + oxV d (cV L) qC) from
    (K (F := F)).mayWaits_none (thr := V d (cV L) (jV L)) hO') $$ Hlv
  ihave Hmw2 := (show levAts (K (F := F)).L (K (F := F)).lev ⊢ Transfers.MayWaits (V d (cV L) (jV L)) (default : HIx 3) O from
    (K (F := F)).mayWaits_none (thr := V d (cV L) (jV L)) hO) $$ Hlv
  ihave Hx' := (Entails.of_eq (pts_x (F := F) (U := U) d L _ _).symm) $$ Hx
  ihave Hi' := (Entails.of_eq (pts_iRow (F := F) (U := U) d L _ _).symm) $$ Hi
  ihave Hsh' := (Entails.of_eq (pts_shStripe (F := F) (U := U) d L _ _).symm) $$ Hsh
  ihave Hix' := (Entails.of_eq (pts_ix (F := F) (U := U) d L _).symm) $$ Hb0
  ihave Hrw' := (Entails.of_eq (pts_rw (F := F) (U := U) d L _).symm) $$ Hb1
  ihave Hob' := (Entails.of_eq (pts_ob (F := F) (U := U) d L _).symm) $$ Hb2
  -- the index row into the index scratch, the stripe into the shared table, each waited for
  sl_exec (disch := first | exact View.amount_pos _ _ (stripe_numel_pos L) | exact View.dmaCredit_pos _ (stripe_numel_pos L))
  -- the barrier: the stripe, holding the table's rows, handed over by read shares; every stripe's share received
  unfold tile_body_genV.sl.dma0_1 tile_body_genV.sl.dma0
  ihave Hsh3 := (stripe_fix (F := F) (U := U) d L Tx fsh) $$ Hsh'
  ihave Hpk := hin_pay $$ Hsh3
  icases Hpk with ⟨Hkeep, Hpays⟩
  iapply (SparseCore.wp_subcoreBarrier 𝒱₀ none EB Rd d (sc := cV L) (i := jV L) sc_bar0 (grid0.bound 1) hsub0 (L 1) rfl κ (fun _ => rC) (jV L).val
      hmem hamt hexp (some qC) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) (8 * qC.val + 3) (fun p hp => by
        rw [Finset.mem_singleton] at hp; subst hp
        show (K (F := F)).lev (bcell d (cV L) (jV L)) (some qC) ≤ 8 * qC.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hrch1, Hgot⟩
  ihave Hall := hout_pay $$ Hgot
  -- the index scratch holds row `wid`; every window of it names rows of the table
  ihave Hix2 := (idx_fix (F := F) (U := U) d L Ix f0) $$ Hix'
  have hinR := idx_inb (F := F) L Ix hin
  ihave Hall' := (Entails.of_eq (show ((shV).view.loc (V d (cV L) (jV L)) ↦{shTok (jV L)} Tx : sProp 𝕄) = shLoc d (cV L) ↦{shTok (jV L)} Tx from rfl).symm) $$ Hall
  ihave HallS := (pointsTo_share (PosShare.mem_left_op_right (shTok (jV L)))).1 $$ Hall'
  icases HallS with ⟨HallA, HallB⟩
  ihave HixS := (pointsTo_share (PosShare.mem_left_op_right fullShare)).1 $$ Hix2
  icases HixS with ⟨HixA, HixB⟩
  -- the two first gathers
  sl_exec
  -- the forty trips
  sl_for (tripInvV d L Tx Ix O (insert (SemLoc.reg sc_bar0, some qC) (insert (SemLoc.dma cc0_scoped1.sem, (default : HIx 3)) (insert (SemLoc.dma cc0_scoped0.sem, (default : HIx 3)) W)))) $$ [Hmw2 Hg0 Hg1 HixA HixB HallA HallB Hrw' Hob' Ho0 Ho1 Ho HO]
  case region =>
    intro k x
    unfold tile_body_genV.sl.prog.body_1
    exact htrip _ k x
  · unfold tripInvV
    simp only [↓reduceIte]
    unfold gFl0 gFl1
    isplitr; · iexact Hmw2
    isplitl [Hg0 Hg1 HixA HixB]
    · iexists _; iexists _
      isplitr
      swap
      · isplitl [Hg0 HixA]
        · isplitl [Hg0]; · iexact Hg0
          iexact HixA
        · isplitl [Hg1]; · iexact Hg1
          iexact HixB
      ipureintro
      exact ⟨rows_ok0 (F := F) L Tx Ix 0 (by omega) _ rfl _ _ _ _, rows_ok1 (F := F) L Tx Ix 1 (by omega) _ rfl _ _ _ _⟩
    isplitl [Hrw']; · iexists _; iexact Hrw'
    isplitl [HallA]; · iexact HallA
    isplitl [HallB]; · iexact HallB
    isplitl [Hob' Ho0 Ho1]
    · iexists _
      isplitl [Hob']; · iexact Hob'
      isplitl [Ho0]; · iexact Ho0
      iexact Ho1
    isplitl [Ho]; · iapply (rows_of_chunksV (F := F) (U := U) d L Tx Ix fo); iexact Ho
    iexists _; isplitr
    · ipureintro; exact fun p hp => .inl hp
    · iexact HO
  iintro %_ HI
  have htr : Scf.trips k0_t1_loop.lb k0_t1_loop.ub k0_t1_loop.st = 40 := by decide
  rw [htr]
  unfold tripInvV
  simp only [show (40 : ℕ) ≠ 0 by decide, ↓reduceIte, show (40 : ℕ) - 1 = 39 by decide]
  unfold gFl0 gFl1 oFl0 oFl1
  icases HI with ⟨-, ⟨%fr0, %fr1, -, ⟨FG0, Hix0⟩, ⟨FG1, Hix1⟩⟩, ⟨%frr, Hrwr⟩, Hsh0, Hsh1, ⟨%fob, %fc0, %fc1, %fob0, %fob1, %hchk, FO0, FO1, Hobr⟩, Hrows, ⟨%W', %hW', HO⟩⟩
  sl_exec
  sl_step
  unfold tdTV
  -- the table's and the index row's shares, the result chunks, the shared table's read share and the kept remainder
  isplitl [Hx' Hi' Hrows FO0_dst FO1_dst Hsh0 Hsh1 Hkeep]
  · isplitl [Hx']; · iexact Hx'
    isplitl [Hi']; · iexact Hi'
    isplitl [Hrows FO0_dst FO1_dst]
    · iapply (rows_closeV (F := F) (U := U) d L Tx Ix fc0 fc1 hchk.1 hchk.2)
      isplitl [Hrows]; · iexact Hrows
      isplitl [FO0_dst]; · iexact FO0_dst
      iexact FO1_dst
    isplitl [Hsh0 Hsh1]
    · iapply (pointsTo_share (PosShare.mem_left_op_right (shTok (jV L)))).2
      isplitl [Hsh0]; · iexact Hsh0
      iexact Hsh1
    iexact Hkeep
  isplitl [Hat Hrch1]
  · isplitl [Hat]; · iexact Hat
    iexact Hrch1
  -- the scratches, whole again
  isplitl [Hix0 Hix1 FG0_dst FG1_dst Hrwr FO0_src FO1_src Hobr]
  · isplitl [Hix0 Hix1]
    · iexists _
      iapply (pointsTo_share (PosShare.mem_left_op_right fullShare)).2
      isplitl [Hix0]; · iexact Hix0
      iexact Hix1
    isplitl [FG0_dst FG1_dst Hrwr]
    · ihave H1 := (pts_join (F := F) (U := U) (sdiff_join_disj rw_slots_disjoint) fr0 frr) $$ [FG0_dst Hrwr]
      · isplitl [FG0_dst]; · iexact FG0_dst
        iexact Hrwr
      icases H1 with ⟨%g1, H1⟩
      rw [sdiff_join_left rw_slots_disjoint]
      ihave H2 := (pts_join (F := F) (U := U) Finset.disjoint_sdiff fr1 g1) $$ [FG1_dst H1]
      · isplitl [FG1_dst]; · iexact FG1_dst
        iexact H1
      icases H2 with ⟨%g2, H2⟩
      rw [sdiff_join_all]
      iexists g2; iexact H2
    · ihave H1 := (pts_join (F := F) (U := U) (sdiff_join_disj ob_slots_disjoint) fob0 fob) $$ [FO0_src Hobr]
      · isplitl [FO0_src]; · iexact FO0_src
        iexact Hobr
      icases H1 with ⟨%g1, H1⟩
      rw [sdiff_join_left ob_slots_disjoint]
      ihave H2 := (pts_join (F := F) (U := U) Finset.disjoint_sdiff fob1 g1) $$ [FO1_src H1]
      · isplitl [FO1_src]; · iexact FO1_src
        iexact H1
      icases H2 with ⟨%g2, H2⟩
      rw [sdiff_join_all]
      iexists g2; iexact H2
  -- the six semaphores at zero
  isplitl [HsA HsB FG0 FG1 FO0 FO1]
  · isplitl [HsA]; · iexact HsA
    isplitl [HsB]; · iexact HsB
    isplitl [FG0]; · iexact FG0
    isplitl [FG1]; · iexact FG1
    isplitl [FO0]; · iexact FO0
    iexact FO1
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

end Body
end Cert.Proof.TileB
end
-- ==== Proof.BodyFrameVK.lean ====
/-
  The gather-sum kernel on one vector subcore, with what it computes: run from what the subcore is handed to what it hands
  back, every result chunk holding its rows of the neighbour-sum array; every trip of the forty proved.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsK
import proofs.«205366_g3083786518796_cont_9to1_852_38_alg».proof.Proof.BodyLemmasK
import proofs.«205366_g3083786518796_cont_9to1_852_38_alg».proof.Proof.BodyInvK
import proofs.«205366_g3083786518796_cont_9to1_852_38_alg».proof.Proof.BodyJoinK
import proofs.«205366_g3083786518796_cont_9to1_852_38_alg».proof.Proof.GSumK
import proofs.«205366_g3083786518796_cont_9to1_852_38_alg».proof.Proof.BodyInvVK
import proofs.«205366_g3083786518796_cont_9to1_852_38_alg».proof.Proof.BodyTripK
import proofs.«205366_g3083786518796_cont_9to1_852_38_alg».proof.Proof.BodyStepVK
import proofs.«205366_g3083786518796_cont_9to1_852_38_alg».proof.Proof.BodyInnerVK
import proofs.«205366_g3083786518796_cont_9to1_852_38_alg».proof.Proof.BodyStepsVK
import proofs.«205366_g3083786518796_cont_9to1_852_38_alg».proof.Proof.BodyTripVK
import proofs.«205366_g3083786518796_cont_9to1_852_38_alg».proof.Proof.BodyGenVK
import Idealize.ShloMosaic.Lib.ValueIdx

noncomputable section

namespace Cert.Proof.TileB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_arg0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v8_scv : Memref Cert.Kernel.sig Kind.scVector Space.hbm Cert.Kernel.S10240x128 EltTy.f32)
local notation "ixV" => (Memref.whole Cert.Kernel.cc0_scratch0 : Memref Cert.Kernel.sig Kind.scVector Space.vmem Cert.Kernel.S10496 EltTy.i32)
local notation "rwV" => (Memref.whole Cert.Kernel.cc0_scratch1 : Memref Cert.Kernel.sig Kind.scVector Space.vmem Cert.Kernel.S2x128x128 EltTy.f32)
local notation "obV" => (Memref.whole Cert.Kernel.cc0_scratch2 : Memref Cert.Kernel.sig Kind.scVector Space.vmem Cert.Kernel.S2x4x128 EltTy.f32)
local notation "shV" => (Memref.whole Cert.Kernel.cc0_scratch3 : Memref Cert.Kernel.sig Kind.scVector Space.shared Cert.Kernel.S10000x128 EltTy.f32)

section Body
variable (d : Dev nD) (L : grid0.Coords)

open Idealize.ShloMosaic.ValueIdx (ix1 ix2 ix3)

/-- The kernel on vector subcore `L`, every trip proved, the result chunks at their sums. -/
theorem tile_body_frameV (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid0.bound 1), (jV L).val ∈ Rd.duties (bcell d (cV L) (j.castLE hsub0)) rC)
    (hamt : ∀ j : Fin (grid0.bound 1), Rd.amount (bcell d (cV L) (j.castLE hsub0)) rC (jV L).val = 1)
    (hexp : 0 + grid0.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid0.bound 1) => Rd.payload (bcell d (cV L) (j.castLE hsub0)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f))
        ∗ (semVal (cell d L cc0_scoped0.sem) 0 ∗ semVal (cell d L cc0_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc0__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc0_scratch4 cc0_scratch5 cc0_scoped0 cc0_scoped1)
          fun _ => iprop(tdTV d L Tx Ix qx qi
            ∗ (atPos EB (bcell d (cV L) (jV L)) (rC + 1) (∅ : Finset ℕ) 0 ∗ reached (D := ℕ) EB (bcell d (cV L) (jV L)) (rC + 1))
            ∗ ((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f))
            ∗ (semVal (cell d L cc0_scoped0.sem) 0 ∗ semVal (cell d L cc0_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') :=
  tile_body_genV (F := F) (U := U) d L EB Rd rC qC qx qi Tx Ix fo hmem hamt hexp hin_pay hout_pay hin O W hO
    (fun v2 k x => trip_regionV (F := F) (U := U) d L Tx Ix (idx_inb (F := F) L Ix hin) O _ v2 k x) hOlev
end Body
end Cert.Proof.TileB
end
-- ==== Proof.BodyInvC1K.lean ====
/-
  The invariant of the gather-sum kernel's forty trips, for one vector subcore: which gathers and copy-outs are in flight
  when `t` trips are done, and what of the scratches, of the shared table's read shares and of the result chunks is held.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC1K
import proofs.«205366_g3083786518796_cont_9to1_852_38_alg».proof.Proof.BodyLemmasC1K

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

section Body
variable (d : Dev nD) (L : grid3.Coords)

/-! ## The forty trips' invariant -/

theorem k3_trips_eq : k3_t1_loop.trips = 40 := by decide

/-- Trip `n` as an index of the loop (clamped). -/
def tFin (n : ℕ) : Fin k3_t1_loop.trips := ⟨min n 39, by rw [k3_trips_eq]; omega⟩
theorem tFin_val (k : Fin k3_t1_loop.trips) : tFin k.val = k := Fin.ext (by have h := lt_of_lt_of_eq k.isLt k3_trips_eq; show min k.val 39 = k.val; omega)

/-- The index windows of the two gathers started before the loop, and of those a trip starts. -/
abbrev ixLit0 : Memref sig .scVector .vmem S128 .i32 := (ixV).slice (Rect.unit (s := S10496) ![0] S128.size inb_S10496_S128_0) (fun _ => rfl)
abbrev ixLit1 : Memref sig .scVector .vmem S128 .i32 := (ixV).slice (Rect.unit (s := S10496) ![128] S128.size inb_S10496_S128_128) (fun _ => rfl)
abbrev ixLoop0 (t : Fin k3_t1_loop.trips) : Memref sig .scVector .vmem S128 .i32 := (ixV).slice (Rect.unit (s := S10496) (k3_off21 t 0#32) S128.size (k3_off21_inb t 0)) (fun _ => rfl)
abbrev ixLoop1 (t : Fin k3_t1_loop.trips) : Memref sig .scVector .vmem S128 .i32 := (ixV).slice (Rect.unit (s := S10496) (k3_off21 t 1#32) S128.size (k3_off21_inb t 1)) (fun _ => rfl)

abbrev ixLoopSet0 (t : Fin k3_t1_loop.trips) : Finset S10496.Idx := (ixLoop0 t).view.set
abbrev ixLoopSet1 (t : Fin k3_t1_loop.trips) : Finset S10496.Idx := (ixLoop1 t).view.set
abbrev ixLitSet0 : Finset S10496.Idx := (ixLit0).view.set
abbrev ixLitSet1 : Finset S10496.Idx := (ixLit1).view.set

section Inv

variable (Tx : S10000x128.Idx → Elt F .f32) (Ix : S32x10496.Idx → Elt F .i32)

/-- A gather in flight into slot 0 (resp. 1) of the row scratch, over the index window `w`, and the rest of that window's
    share of the index scratch. -/
def gFl0 (ws : Finset S10496.Idx) (fr : Buf (Elt F) ((V d (cV L) (jV L)).loc cc3_scratch1)) : sProp 𝕄 :=
  iprop(Transfers.Flight (countersEmb : UEmb Counters 𝕄) (V d (cV L) (jV L)) (SemLoc.dma g0sem) (default : HIx 3) 524288
      iprop((((rwV).view.loc (V d (cV L) (jV L)) ↦[(rwK0).view.set]{fullShare} fr)
          ∗ ((ixV).view.loc (V d (cV L) (jV L)) ↦[ws]{fullShare.left} (iRowK L).view.read (Elt F) Ix))
        ∗ ((shV).view.loc (V d (cV L) (jV L)) ↦[(shAllK).view.set]{(shTok (jV L)).left} Tx))
    ∗ ((ixV).view.loc (V d (cV L) (jV L)) ↦[Finset.univ \ ws]{fullShare.left} (iRowK L).view.read (Elt F) Ix))
def gFl1 (ws : Finset S10496.Idx) (fr : Buf (Elt F) ((V d (cV L) (jV L)).loc cc3_scratch1)) : sProp 𝕄 :=
  iprop(Transfers.Flight (countersEmb : UEmb Counters 𝕄) (V d (cV L) (jV L)) (SemLoc.dma g1sem) (default : HIx 3) 524288
      iprop((((rwV).view.loc (V d (cV L) (jV L)) ↦[(rwK1).view.set]{fullShare} fr)
          ∗ ((ixV).view.loc (V d (cV L) (jV L)) ↦[ws]{fullShare.right} (iRowK L).view.read (Elt F) Ix))
        ∗ ((shV).view.loc (V d (cV L) (jV L)) ↦[(shAllK).view.set]{(shTok (jV L)).right} Tx))
    ∗ ((ixV).view.loc (V d (cV L) (jV L)) ↦[Finset.univ \ ws]{fullShare.right} (iRowK L).view.read (Elt F) Ix))

/-- A copy-out in flight from slot 0 (resp. 1) of the result scratch to the chunk of trip `t`. -/
def oFl0 (t : Fin k3_t1_loop.trips) (fc : S10240x128.Idx → Elt F .f32) (fob : Buf (Elt F) ((V d (cV L) (jV L)).loc cc3_scratch2)) : sProp 𝕄 :=
  Transfers.Flight (countersEmb : UEmb Counters 𝕄) (V d (cV L) (jV L)) (SemLoc.dma o0sem) (default : HIx 3) 16384
    iprop(((oChunkK L t 0).view.loc (V d (cV L) (jV L)) ↦[(oChunkK L t 0).view.set]{fullShare} fc)
      ∗ ((obV).view.loc (V d (cV L) (jV L)) ↦[(obK0).view.set]{fullShare} fob))
def oFl1 (t : Fin k3_t1_loop.trips) (fc : S10240x128.Idx → Elt F .f32) (fob : Buf (Elt F) ((V d (cV L) (jV L)).loc cc3_scratch2)) : sProp 𝕄 :=
  Transfers.Flight (countersEmb : UEmb Counters 𝕄) (V d (cV L) (jV L)) (SemLoc.dma o1sem) (default : HIx 3) 16384
    iprop(((oChunkK L t 1).view.loc (V d (cV L) (jV L)) ↦[(oChunkK L t 1).view.set]{fullShare} fc)
      ∗ ((obV).view.loc (V d (cV L) (jV L)) ↦[(obK1).view.set]{fullShare} fob))

/-- The two result chunks of trip `t'` when `t` trips are done: in flight (trip `t - 1`'s), else held at some contents. -/
def rowSt (t : ℕ) (t' : Fin k3_t1_loop.trips) : sProp 𝕄 :=
  if t'.val + 1 = t then iprop(emp)
  else iprop((∃ f, (oChunkK L t' 0).view.loc (V d (cV L) (jV L)) ↦[(oChunkK L t' 0).view.set]{fullShare} f)
    ∗ (∃ f, (oChunkK L t' 1).view.loc (V d (cV L) (jV L)) ↦[(oChunkK L t' 1).view.set]{fullShare} f))

/-- When `t` trips are done: the gathers of chunks `2 t` and `2 t + 1` are in flight; the copy-outs of trip `t - 1` are
    (none before the first trip); the scratches less the slots in flight are held; the shared table's two read shares less
    nothing; every other result chunk is held. -/
def tripInv (O : CellTallies nD τ sig (HIx 3)) (W : Waits sig (HIx 3)) (t : ℕ) (_ : PUnit) : sProp 𝕄 :=
  iprop(Transfers.MayWaits (V d (cV L) (jV L)) (default : HIx 3) O
    ∗ (if t = 0 then iprop(∃ fr0 fr1 : Buf (Elt F) ((V d (cV L) (jV L)).loc cc3_scratch1), gFl0 d L Tx Ix ixLitSet0 fr0 ∗ gFl1 d L Tx Ix ixLitSet1 fr1)
        else iprop(∃ fr0 fr1 : Buf (Elt F) ((V d (cV L) (jV L)).loc cc3_scratch1),
          gFl0 d L Tx Ix (ixLoopSet0 (tFin (t - 1))) fr0 ∗ gFl1 d L Tx Ix (ixLoopSet1 (tFin (t - 1))) fr1))
    ∗ (∃ frr : Buf (Elt F) ((V d (cV L) (jV L)).loc cc3_scratch1),
        (rwV).view.loc (V d (cV L) (jV L)) ↦[(Finset.univ \ (rwK0).view.set) \ (rwK1).view.set]{fullShare} frr)
    ∗ ((shV).view.loc (V d (cV L) (jV L)) ↦[Finset.univ \ (shAllK).view.set]{(shTok (jV L)).left} Tx)
    ∗ ((shV).view.loc (V d (cV L) (jV L)) ↦[Finset.univ \ (shAllK).view.set]{(shTok (jV L)).right} Tx)
    ∗ (if t = 0 then iprop(∃ fob : Buf (Elt F) ((V d (cV L) (jV L)).loc cc3_scratch2), ((obV).view.loc (V d (cV L) (jV L)) ↦{fullShare} fob)
            ∗ semVal (V d (cV L) (jV L), SemLoc.dma o0sem) 0 ∗ semVal (V d (cV L) (jV L), SemLoc.dma o1sem) 0)
        else iprop(∃ (fob : Buf (Elt F) ((V d (cV L) (jV L)).loc cc3_scratch2)) (fc0 fc1 : S10240x128.Idx → Elt F .f32) (fob0 fob1 : Buf (Elt F) ((V d (cV L) (jV L)).loc cc3_scratch2)),
            oFl0 d L (tFin (t - 1)) fc0 fob0 ∗ oFl1 d L (tFin (t - 1)) fc1 fob1
            ∗ ((obV).view.loc (V d (cV L) (jV L)) ↦[(Finset.univ \ (obK0).view.set) \ (obK1).view.set]{fullShare} fob)))
    ∗ (bigSep Finset.univ fun t' : Fin k3_t1_loop.trips => rowSt d L t t')
    ∗ ∃ W', ⌜∀ p ∈ W', p ∈ W ∨ p.2 = none⌝ ∗ owes (V d (cV L) (jV L)) O W')

end Inv

end Body
end Cert.Proof.TileB1
end
-- ==== Proof.BodyJoinC1K.lean ====
/-
  Joining pieces of one buffer held at contents of their own; the slots of the row and result scratches are apart; the
  result chunks' rows as the trips' invariant states them, opened and closed; what the stage copy and the index copy leave.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC1K
import proofs.«205366_g3083786518796_cont_9to1_852_38_alg».proof.Proof.BodyLemmasC1K
import proofs.«205366_g3083786518796_cont_9to1_852_38_alg».proof.Proof.BodyInvC1K

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

section Body
variable (d : Dev nD) (L : grid3.Coords)

/-! ## Two pieces of one buffer, at contents of their own, are their union at some contents -/

theorem pts_join {ℓ : Loc nD τ sig} {q : PosShare TreeShare} {A B : Finset (Idx ℓ)} (h : Disjoint A B) (f g : Buf (Elt F) ℓ) :
    iprop((ℓ ↦[A]{q} f) ∗ (ℓ ↦[B]{q} g)) ⊢ (iprop(∃ h, ℓ ↦[A ∪ B]{q} h) : sProp 𝕄) := by
  classical
  have e1 : (ℓ ↦[A]{q} f : sProp 𝕄) = ℓ ↦[A]{q} (fun i => if i ∈ A then f i else g i) := pointsTo_congr fun i hi => by simp [hi]
  have e2 : (ℓ ↦[B]{q} g : sProp 𝕄) = ℓ ↦[B]{q} (fun i => if i ∈ A then f i else g i) := pointsTo_congr fun i hi => by
    have : i ∉ A := fun ha => (Finset.disjoint_left.mp h ha hi)
    simp [this]
  iintro ⟨HA, HB⟩
  iexists (fun i => if i ∈ A then f i else g i)
  ihave HA' := (Entails.of_eq e1) $$ HA
  ihave HB' := (Entails.of_eq e2) $$ HB
  iapply (pointsTo_split_subset (S := A ∪ B) (I := A) Finset.subset_union_left).2
  isplitl [HA']; · iexact HA'
  rw [Finset.union_sdiff_cancel_left h]; iexact HB'

/-- The two slots of the row scratch, and of the result scratch, are apart. -/
theorem set_rwK0 : (rwK0).view.set = (Rect.unit (s := S2x128x128) ![0, 0, 0] S1x128x128.size inb_S2x128x128_S1x128x128_0_0_0).set := by
  show (((rwV).view.slice (Rect.unit (s := S2x128x128) ![0, 0, 0] S1x128x128.size inb_S2x128x128_S1x128x128_0_0_0)).reshape S128x128 squeezes_S1x128x128_S128x128.numel_eq).set = _
  rw [View.set_reshape, View.set_slice_whole]
theorem set_rwK1 : (rwK1).view.set = (Rect.unit (s := S2x128x128) ![1, 0, 0] S1x128x128.size inb_S2x128x128_S1x128x128_1_0_0).set := by
  show (((rwV).view.slice (Rect.unit (s := S2x128x128) ![1, 0, 0] S1x128x128.size inb_S2x128x128_S1x128x128_1_0_0)).reshape S128x128 squeezes_S1x128x128_S128x128.numel_eq).set = _
  rw [View.set_reshape, View.set_slice_whole]
theorem set_obK0 : (obK0).view.set = (Rect.unit (s := S2x4x128) ![0, 0, 0] S1x4x128.size inb_S2x4x128_S1x4x128_0_0_0).set := by
  show (((obV).view.slice (Rect.unit (s := S2x4x128) ![0, 0, 0] S1x4x128.size inb_S2x4x128_S1x4x128_0_0_0)).reshape S4x128 squeezes_S1x4x128_S4x128.numel_eq).set = _
  rw [View.set_reshape, View.set_slice_whole]
theorem set_obK1 : (obK1).view.set = (Rect.unit (s := S2x4x128) ![1, 0, 0] S1x4x128.size inb_S2x4x128_S1x4x128_1_0_0).set := by
  show (((obV).view.slice (Rect.unit (s := S2x4x128) ![1, 0, 0] S1x4x128.size inb_S2x4x128_S1x4x128_1_0_0)).reshape S4x128 squeezes_S1x4x128_S4x128.numel_eq).set = _
  rw [View.set_reshape, View.set_slice_whole]
theorem rw_slots_disjoint : Disjoint (rwK0).view.set (rwK1).view.set := by
  rw [set_rwK0, set_rwK1]; exact Rect.unit_disjoint 0 (Or.inl (by decide))
theorem ob_slots_disjoint : Disjoint (obK0).view.set (obK1).view.set := by
  rw [set_obK0, set_obK1]; exact Rect.unit_disjoint 0 (Or.inl (by decide))

theorem sdiff_join_left {α : Type} [DecidableEq α] [Fintype α] {A B : Finset α} (h : Disjoint A B) :
    A ∪ ((Finset.univ \ A) \ B) = Finset.univ \ B := by
  ext i
  have hd : i ∈ A → i ∉ B := fun ha => Finset.disjoint_left.mp h ha
  simp only [Finset.mem_union, Finset.mem_sdiff, Finset.mem_univ, true_and]
  tauto
theorem sdiff_join_right {α : Type} [DecidableEq α] [Fintype α] {A B : Finset α} (h : Disjoint A B) :
    B ∪ ((Finset.univ \ B) \ A) = Finset.univ \ A := sdiff_join_left h.symm
theorem sdiff_join_all {α : Type} [DecidableEq α] [Fintype α] {A : Finset α} : A ∪ (Finset.univ \ A) = Finset.univ := by
  ext i; simp only [Finset.mem_union, Finset.mem_sdiff, Finset.mem_univ, true_and]; tauto

theorem sdiff_join_disj {α : Type} [DecidableEq α] [Fintype α] {A B : Finset α} (h : Disjoint A B) : Disjoint A ((Finset.univ \ A) \ B) :=
  Finset.disjoint_left.mpr fun i hi hm => (Finset.mem_sdiff.mp (Finset.mem_sdiff.mp hm).1).2 hi

theorem row_intro (t' : Fin k3_t1_loop.trips) (fo : S10240x128.Idx → Elt F .f32) :
    iprop((oLoc d ↦[oChunkSet L t' 0]{fullShare} fo) ∗ (oLoc d ↦[oChunkSet L t' 1]{fullShare} fo))
    ⊢ (iprop((∃ f, (oChunkK L t' 0).view.loc (V d (cV L) (jV L)) ↦[(oChunkK L t' 0).view.set]{fullShare} f)
      ∗ (∃ f, (oChunkK L t' 1).view.loc (V d (cV L) (jV L)) ↦[(oChunkK L t' 1).view.set]{fullShare} f)) : sProp 𝕄) := by
  iintro ⟨H0, H1⟩
  isplitl [H0]
  · iexists fo; iapply (Entails.of_eq (pts_oChunk (F := F) (U := U) d L t' 0 fo).symm); iexact H0
  · iexists fo; iapply (Entails.of_eq (pts_oChunk (F := F) (U := U) d L t' 1 fo).symm); iexact H1

theorem row_elim (t' : Fin k3_t1_loop.trips) :
    (iprop((∃ f, (oChunkK L t' 0).view.loc (V d (cV L) (jV L)) ↦[(oChunkK L t' 0).view.set]{fullShare} f)
      ∗ (∃ f, (oChunkK L t' 1).view.loc (V d (cV L) (jV L)) ↦[(oChunkK L t' 1).view.set]{fullShare} f)) : sProp 𝕄)
    ⊢ iprop((∃ f, oLoc d ↦[oChunkSet L t' 0]{fullShare} f) ∗ (∃ f, oLoc d ↦[oChunkSet L t' 1]{fullShare} f)) := by
  iintro ⟨⟨%f0, H0⟩, ⟨%f1, H1⟩⟩
  isplitl [H0]
  · iexists f0; iapply (Entails.of_eq (pts_oChunk (F := F) (U := U) d L t' 0 f0)); iexact H0
  · iexists f1; iapply (Entails.of_eq (pts_oChunk (F := F) (U := U) d L t' 1 f1)); iexact H1

/-- The result chunks, all held, as the invariant before the first trip states them. -/
theorem rows_of_chunks (fo : S10240x128.Idx → Elt F .f32) :
    (bigSep Finset.univ fun tb : Fin k3_t1_loop.trips × Fin 2 => (oLoc d ↦[oChunkSet L tb.1 tb.2]{fullShare} fo : sProp 𝕄))
    ⊢ bigSep Finset.univ fun t' : Fin k3_t1_loop.trips => rowSt (U := U) d L 0 t' := by
  rw [bigSep_univ_prod]
  refine bigSep_mono fun t' _ => ?_
  rw [bigSep_univ_two]
  unfold rowSt
  rw [if_neg (Nat.succ_ne_zero _)]
  exact row_intro (F := F) (U := U) d L t' fo

/-- Every result chunk held again, at some contents. -/
theorem chunks_of_rows (t : ℕ) (ht : ∀ t' : Fin k3_t1_loop.trips, t'.val + 1 ≠ t) :
    (bigSep Finset.univ fun t' : Fin k3_t1_loop.trips => rowSt (U := U) (F := F) d L t t')
    ⊢ bigSep Finset.univ fun tb : Fin k3_t1_loop.trips × Fin 2 => (iprop(∃ f, oLoc d ↦[oChunkSet L tb.1 tb.2]{fullShare} f) : sProp 𝕄) := by
  rw [bigSep_univ_prod]
  refine bigSep_mono fun t' _ => ?_
  rw [bigSep_univ_two]
  unfold rowSt
  rw [if_neg (ht t')]
  exact row_elim (F := F) (U := U) d L t'

/-- After the stage copy the stripe of the shared table holds the table's rows. -/
theorem stripe_fix (Tx fsh : S10000x128.Idx → Elt F .f32) :
    ((shStripeK L).view.loc (V d (cV L) (jV L)) ↦[(shStripeK L).view.set]{fullShare}
        (shStripeK L).view.writes (Elt F) fsh [⟨Rect.whole { rank := 2, size := (k3_off2 L).2 }, ReadAs.same.apply ((xStripeK L).view.read (Elt F) Tx)⟩] : sProp 𝕄)
    ⊢ shLoc d (cV L) ↦[stripe (jL L)]{fullShare} Tx := by
  rw [pointsTo_congr (stripe_copied (F := F) L Tx fsh)]
  exact Entails.of_eq (pts_shStripe (F := F) (U := U) d L _ _)

/-- After the index copy the index scratch holds row `wid`. -/
theorem idx_fix (Ix : S32x10496.Idx → Elt F .i32) (f0 : S10496.Idx → Elt F .i32) :
    ((ixV).view.loc (V d (cV L) (jV L)) ↦{fullShare} View.write (Elt F) (ixV).view f0 (ReadAs.same.apply ((iRowK L).view.read (Elt F) Ix)) Finset.univ : sProp 𝕄)
    ⊢ (ixV).view.loc (V d (cV L) (jV L)) ↦{fullShare} (iRowK L).view.read (Elt F) Ix := by
  rw [pointsTo_congr (idx_copied (F := F) L Ix f0)]

theorem stripe_numel_pos : ∀ L : grid3.Coords, 0 < (⟨2, (k3_off2 L).2⟩ : Shape).numel := by decide +kernel

theorem tFin_39 : (tFin 39).val + 1 = 40 := rfl

/-- All result chunks held again once the last trip's two copy-outs have landed. -/
theorem rows_close (fc0 fc1 : S10240x128.Idx → Elt F .f32) :
    iprop((bigSep Finset.univ fun t' : Fin k3_t1_loop.trips => rowSt (U := U) (F := F) d L 40 t')
      ∗ ((oChunkK L (tFin 39) 0).view.loc (V d (cV L) (jV L)) ↦[(oChunkK L (tFin 39) 0).view.set]{fullShare} fc0)
      ∗ ((oChunkK L (tFin 39) 1).view.loc (V d (cV L) (jV L)) ↦[(oChunkK L (tFin 39) 1).view.set]{fullShare} fc1))
    ⊢ bigSep Finset.univ fun tb : Fin k3_t1_loop.trips × Fin 2 => (iprop(∃ f, oLoc d ↦[oChunkSet L tb.1 tb.2]{fullShare} f) : sProp 𝕄) := by
  rw [bigSep_univ_prod]
  have hrest : Idealize.SL.BI.Entails
      (bigSep (Finset.univ.erase (tFin 39)) fun t' : Fin k3_t1_loop.trips => rowSt (U := U) (F := F) d L 40 t')
      (bigSep (Finset.univ.erase (tFin 39)) fun t' : Fin k3_t1_loop.trips => bigSep Finset.univ fun b : Fin 2 => (iprop(∃ f, oLoc d ↦[oChunkSet L (t', b).1 (t', b).2]{fullShare} f) : sProp 𝕄)) :=
    bigSep_mono fun t' ht' => by
      have hne : t'.val + 1 ≠ 40 := fun h => (Finset.mem_erase.mp ht').1 (Fin.ext (by show t'.val = min 39 39; omega))
      rw [bigSep_univ_two]
      unfold rowSt
      rw [if_neg hne]
      exact row_elim (F := F) (U := U) d L t'
  iintro ⟨Hrows, H0, H1⟩
  ihave Hr := (Entails.of_eq (SparseCore.bigSep_erase' (Φ := fun t' : Fin k3_t1_loop.trips => rowSt (U := U) (F := F) d L 40 t') (Finset.mem_univ (tFin 39)))) $$ Hrows
  icases Hr with ⟨-, Hrest⟩
  iapply (Entails.of_eq (SparseCore.bigSep_erase' (Φ := fun t' : Fin k3_t1_loop.trips => bigSep Finset.univ fun b : Fin 2 => (iprop(∃ f, oLoc d ↦[oChunkSet L (t', b).1 (t', b).2]{fullShare} f) : sProp 𝕄)) (Finset.mem_univ (tFin 39))).symm)
  isplitl [H0 H1]
  · rw [bigSep_univ_two]
    isplitl [H0]
    · iexists fc0; iapply (Entails.of_eq (pts_oChunk (F := F) (U := U) d L (tFin 39) 0 fc0)); iexact H0
    · iexists fc1; iapply (Entails.of_eq (pts_oChunk (F := F) (U := U) d L (tFin 39) 1 fc1)); iexact H1
  · iapply (SparseCore.ent hrest) $$ Hrest

end Body
end Cert.Proof.TileB1
end
-- ==== Proof.BodyInvVC1K.lean ====
/-
  The gather-sum kernel's trips with what the buffers hold: the row scratch's slots hold the table rows their index chunks
  name, the result scratch's summed rows hold the tree sums, the chunks copied out hold their rows of the neighbour-sum array.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC1K
import proofs.«205366_g3083786518796_cont_9to1_852_38_alg».proof.Proof.BodyLemmasC1K
import proofs.«205366_g3083786518796_cont_9to1_852_38_alg».proof.Proof.BodyInvC1K
import proofs.«205366_g3083786518796_cont_9to1_852_38_alg».proof.Proof.BodyJoinC1K
import proofs.«205366_g3083786518796_cont_9to1_852_38_alg».proof.Proof.GSumK
import Idealize.ShloMosaic.Lib.ValueIdx

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

section Body
variable (d : Dev nD) (L : grid3.Coords)

/-! ## The forty trips' invariant, with what the buffers hold -/

open Idealize.ShloMosaic.ValueIdx (ix1 ix2 ix3)

section InvV

variable (Tx : S10000x128.Idx → Elt F .f32) (Ix : S32x10496.Idx → Elt F .i32)

/-- Entry `n` of the worker's row of the index table, as a row number of the table (reduced into range). -/
def idxAt (n : ℕ) : Fin 10000 :=
  ⟨((iRowK L).view.read (Elt F) Ix (ix1 ⟨n % 10496, Nat.mod_lt _ (by decide)⟩)).toNat % 10000, Nat.mod_lt _ (by decide)⟩

/-- Slot `b` of the row scratch holds the 128 table rows named by index chunk `n`. -/
def RowsOK (b : Fin 2) (n : ℕ) (fr : S2x128x128.Idx → Elt F .f32) : Prop :=
  ∀ (r j : Fin 128), fr (ix3 b r j) = Tx (ix2 (idxAt L Ix (128 * n + r.val)) j)

/-- The tree sum of the 32 table rows named by entries `32 m …` of the worker's index row, at lane `j`: row `m` of the
    worker's 320 result rows. -/
def rowSum [FloatOps F] (m : ℕ) (j : Fin 128) : Elt F .f32 :=
  Cert.Proof.KB.tree32 (F := F) fun kk : Fin 32 => Tx (ix2 (idxAt L Ix (32 * m + kk.val)) j)

/-- Rows `< r` of slot `b` of the result scratch hold the sums of result rows `4 n …`. -/
def SumsOK [FloatOps F] (b : Fin 2) (n : ℕ) (r : ℕ) (fob : S2x4x128.Idx → Elt F .f32) : Prop :=
  ∀ (r' : Fin 4) (j : Fin 128), r'.val < r → fob (ix3 b r' j) = rowSum L Tx Ix (4 * n + r'.val) j

/-- A result chunk holds its rows of the neighbour-sum array. -/
def ChunkOK [FloatOps F] (t : Fin k3_t1_loop.trips) (b : Fin 2) (f : S10240x128.Idx → Elt F .f32) : Prop :=
  ∀ x ∈ oChunkSet L t b, f x = Cert.Proof.KB.gsumF (F := F) Tx Ix x

/-- The two result chunks of trip `t'` when `t` trips are done: in flight (trip `t - 1`'s); copied out and holding their rows of
    the neighbour-sum array (earlier trips'); else held at some contents. -/
def rowStV [FloatOps F] (t : ℕ) (t' : Fin k3_t1_loop.trips) : sProp 𝕄 :=
  if t'.val + 1 = t then iprop(emp)
  else if t'.val < t then
    iprop((∃ f, ⌜ChunkOK L Tx Ix t' 0 f⌝ ∗ ((oChunkK L t' 0).view.loc (V d (cV L) (jV L)) ↦[(oChunkK L t' 0).view.set]{fullShare} f))
      ∗ (∃ f, ⌜ChunkOK L Tx Ix t' 1 f⌝ ∗ ((oChunkK L t' 1).view.loc (V d (cV L) (jV L)) ↦[(oChunkK L t' 1).view.set]{fullShare} f)))
  else iprop((∃ f, (oChunkK L t' 0).view.loc (V d (cV L) (jV L)) ↦[(oChunkK L t' 0).view.set]{fullShare} f)
    ∗ (∃ f, (oChunkK L t' 1).view.loc (V d (cV L) (jV L)) ↦[(oChunkK L t' 1).view.set]{fullShare} f))

/-- The trips' invariant with what the buffers hold: the row scratch's slot in flight will hold the table rows its index
    chunk names; a chunk in flight will hold its rows of the neighbour-sum array; the chunks copied out hold theirs. -/
def tripInvV [FloatOps F] (O : CellTallies nD τ sig (HIx 3)) (W : Waits sig (HIx 3)) (t : ℕ) (_ : PUnit) : sProp 𝕄 :=
  iprop(Transfers.MayWaits (V d (cV L) (jV L)) (default : HIx 3) O
    ∗ (if t = 0 then iprop(∃ fr0 fr1 : Buf (Elt F) ((V d (cV L) (jV L)).loc cc3_scratch1),
          ⌜RowsOK L Tx Ix 0 (2 * t) fr0 ∧ RowsOK L Tx Ix 1 (2 * t + 1) fr1⌝ ∗ gFl0 d L Tx Ix ixLitSet0 fr0 ∗ gFl1 d L Tx Ix ixLitSet1 fr1)
        else iprop(∃ fr0 fr1 : Buf (Elt F) ((V d (cV L) (jV L)).loc cc3_scratch1),
          ⌜RowsOK L Tx Ix 0 (2 * t) fr0 ∧ RowsOK L Tx Ix 1 (2 * t + 1) fr1⌝
          ∗ gFl0 d L Tx Ix (ixLoopSet0 (tFin (t - 1))) fr0 ∗ gFl1 d L Tx Ix (ixLoopSet1 (tFin (t - 1))) fr1))
    ∗ (∃ frr : Buf (Elt F) ((V d (cV L) (jV L)).loc cc3_scratch1),
        (rwV).view.loc (V d (cV L) (jV L)) ↦[(Finset.univ \ (rwK0).view.set) \ (rwK1).view.set]{fullShare} frr)
    ∗ ((shV).view.loc (V d (cV L) (jV L)) ↦[Finset.univ \ (shAllK).view.set]{(shTok (jV L)).left} Tx)
    ∗ ((shV).view.loc (V d (cV L) (jV L)) ↦[Finset.univ \ (shAllK).view.set]{(shTok (jV L)).right} Tx)
    ∗ (if t = 0 then iprop(∃ fob : Buf (Elt F) ((V d (cV L) (jV L)).loc cc3_scratch2), ((obV).view.loc (V d (cV L) (jV L)) ↦{fullShare} fob)
            ∗ semVal (V d (cV L) (jV L), SemLoc.dma o0sem) 0 ∗ semVal (V d (cV L) (jV L), SemLoc.dma o1sem) 0)
        else iprop(∃ (fob : Buf (Elt F) ((V d (cV L) (jV L)).loc cc3_scratch2)) (fc0 fc1 : S10240x128.Idx → Elt F .f32) (fob0 fob1 : Buf (Elt F) ((V d (cV L) (jV L)).loc cc3_scratch2)),
            ⌜ChunkOK L Tx Ix (tFin (t - 1)) 0 fc0 ∧ ChunkOK L Tx Ix (tFin (t - 1)) 1 fc1⌝
            ∗ oFl0 d L (tFin (t - 1)) fc0 fob0 ∗ oFl1 d L (tFin (t - 1)) fc1 fob1
            ∗ ((obV).view.loc (V d (cV L) (jV L)) ↦[(Finset.univ \ (obK0).view.set) \ (obK1).view.set]{fullShare} fob)))
    ∗ (bigSep Finset.univ fun t' : Fin k3_t1_loop.trips => rowStV d L Tx Ix t t')
    ∗ ∃ W', ⌜∀ p ∈ W', p ∈ W ∨ p.2 = none⌝ ∗ owes (V d (cV L) (jV L)) O W')

/-- The inner loops' invariants: the slot's rows already summed hold their sums. `S` is what of the result scratch is held. -/
def innerInv0 [FloatOps F] (S : Finset S2x4x128.Idx) (n : ℕ) (h : Buf (Elt F) ((V d (cV L) (jV L)).loc cc3_scratch1)) (r : ℕ) (_ : PUnit) : sProp 𝕄 :=
  iprop(∃ fob' : Buf (Elt F) ((V d (cV L) (jV L)).loc cc3_scratch2), ⌜SumsOK L Tx Ix 0 n r fob'⌝
    ∗ ((rwV).view.loc (V d (cV L) (jV L)) ↦[Finset.univ \ (rwK1).view.set]{fullShare} h)
    ∗ ((obV).view.loc (V d (cV L) (jV L)) ↦[S]{fullShare} fob'))
def innerInv1 [FloatOps F] (n : ℕ) (h : Buf (Elt F) ((V d (cV L) (jV L)).loc cc3_scratch1)) (r : ℕ) (_ : PUnit) : sProp 𝕄 :=
  iprop(∃ fob' : Buf (Elt F) ((V d (cV L) (jV L)).loc cc3_scratch2), ⌜SumsOK L Tx Ix 1 n r fob'⌝
    ∗ ((rwV).view.loc (V d (cV L) (jV L)) ↦[Finset.univ \ (rwK0).view.set]{fullShare} h)
    ∗ ((obV).view.loc (V d (cV L) (jV L)) ↦[Finset.univ \ (obK0).view.set]{fullShare} fob'))

end InvV

end Body
end Cert.Proof.TileB1
end
-- ==== Proof.BodyTripC1K.lean ====
/-
  One trip of the gather-sum kernel's forty on a vector subcore, from the trips' invariant to itself one trip on: for each
  of the two slots, its gather waited for (and, past the first trip, its previous copy-out), the slot's four rows summed
  (a loop of four, each the tree sum of 32 rows, 16 lanes at a time), the sums copied out to the trip's chunk, the slot's
  next gather started.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC1K
import proofs.«205366_g3083786518796_cont_9to1_852_38_alg».proof.Proof.BodyLemmasC1K
import proofs.«205366_g3083786518796_cont_9to1_852_38_alg».proof.Proof.BodyInvC1K
import proofs.«205366_g3083786518796_cont_9to1_852_38_alg».proof.Proof.BodyJoinC1K

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

section Body
variable (d : Dev nD) (L : grid3.Coords)

theorem rowSt_ne {t : ℕ} {t' : Fin k3_t1_loop.trips} (h : t'.val + 1 ≠ t) :
    (rowSt (U := U) (F := F) d L t t' : sProp 𝕄)
      = iprop((∃ f, (oChunkK L t' 0).view.loc (V d (cV L) (jV L)) ↦[(oChunkK L t' 0).view.set]{fullShare} f)
        ∗ (∃ f, (oChunkK L t' 1).view.loc (V d (cV L) (jV L)) ↦[(oChunkK L t' 1).view.set]{fullShare} f)) := by
  unfold rowSt; rw [if_neg h]
theorem rowSt_eq {t : ℕ} {t' : Fin k3_t1_loop.trips} (h : t'.val + 1 = t) : (rowSt (U := U) (F := F) d L t t' : sProp 𝕄) = iprop(emp) := by
  unfold rowSt; rw [if_pos h]

theorem cond1_zero {k : Fin k3_t1_loop.trips} (hk : k.val = 0) : ¬ k3_cond1 k = 1#1 := by
  have : k = ⟨0, by decide⟩ := Fin.ext hk
  subst this; decide
theorem cond2_zero {k : Fin k3_t1_loop.trips} (hk : k.val = 0) : ¬ k3_cond2 k = 1#1 := by
  have : k = ⟨0, by decide⟩ := Fin.ext hk
  subst this; decide
theorem cond1_pos : ∀ k : Fin k3_t1_loop.trips, k.val ≠ 0 → k3_cond1 k = 1#1 := by decide
theorem cond2_pos : ∀ k : Fin k3_t1_loop.trips, k.val ≠ 0 → k3_cond2 k = 1#1 := by decide

/-- The chunk rows after the first trip: its own two chunks are in flight, the others as before. -/
theorem rows_step0 (k : Fin k3_t1_loop.trips) (hk : k.val = 0) :
    (bigSep (Finset.univ.erase k) fun t' : Fin k3_t1_loop.trips => rowSt (U := U) (F := F) d L k.val t')
    ⊢ bigSep Finset.univ fun t' : Fin k3_t1_loop.trips => rowSt (U := U) (F := F) d L (k.val + 1) t' := by
  have hrest : Idealize.SL.BI.Entails
      (bigSep (Finset.univ.erase k) fun t' : Fin k3_t1_loop.trips => rowSt (U := U) (F := F) d L k.val t')
      (bigSep (Finset.univ.erase k) fun t' : Fin k3_t1_loop.trips => rowSt (U := U) (F := F) d L (k.val + 1) t') :=
    bigSep_mono fun t' ht' => by
      have hne : t' ≠ k := (Finset.mem_erase.mp ht').1
      have h1 : t'.val + 1 ≠ k.val := by omega
      have h2 : t'.val + 1 ≠ k.val + 1 := fun h => hne (Fin.ext (by omega))
      rw [rowSt_ne (F := F) (U := U) d L h1, rowSt_ne (F := F) (U := U) d L h2]
      exact BI.Entails.refl _
  iintro H
  iapply (Entails.of_eq (SparseCore.bigSep_erase' (Φ := fun t' : Fin k3_t1_loop.trips => rowSt (U := U) (F := F) d L (k.val + 1) t') (Finset.mem_univ k)).symm)
  isplitr
  · rw [rowSt_eq (F := F) (U := U) d L rfl]; iempintro
  · iapply (SparseCore.ent hrest) $$ H

/-- The chunk rows after a later trip: its own two chunks are in flight, the previous trip's two are back. -/
theorem rows_stepS (k : Fin k3_t1_loop.trips) (hk : k.val ≠ 0)
    (fc0 : Buf (Elt F) ((oChunkK L (tFin (k.val - 1)) 0).view.loc (V d (cV L) (jV L))))
    (fc1 : Buf (Elt F) ((oChunkK L (tFin (k.val - 1)) 1).view.loc (V d (cV L) (jV L)))) :
    iprop((bigSep (Finset.univ.erase k) fun t' : Fin k3_t1_loop.trips => rowSt (U := U) (F := F) d L k.val t')
      ∗ ((oChunkK L (tFin (k.val - 1)) 0).view.loc (V d (cV L) (jV L)) ↦[(oChunkK L (tFin (k.val - 1)) 0).view.set]{fullShare} fc0)
      ∗ ((oChunkK L (tFin (k.val - 1)) 1).view.loc (V d (cV L) (jV L)) ↦[(oChunkK L (tFin (k.val - 1)) 1).view.set]{fullShare} fc1))
    ⊢ bigSep Finset.univ fun t' : Fin k3_t1_loop.trips => rowSt (U := U) (F := F) d L (k.val + 1) t' := by
  have h40 := lt_of_lt_of_eq k.isLt k3_trips_eq
  have hkm : (tFin (k.val - 1)).val + 1 = k.val := by show min (k.val - 1) 39 + 1 = k.val; omega
  have hne : tFin (k.val - 1) ≠ k := fun h => by have := congrArg Fin.val h; omega
  have hmem : tFin (k.val - 1) ∈ Finset.univ.erase k := Finset.mem_erase.mpr ⟨hne, Finset.mem_univ _⟩
  have hrest : Idealize.SL.BI.Entails
      (bigSep ((Finset.univ.erase k).erase (tFin (k.val - 1))) fun t' : Fin k3_t1_loop.trips => rowSt (U := U) (F := F) d L k.val t')
      (bigSep ((Finset.univ.erase k).erase (tFin (k.val - 1))) fun t' : Fin k3_t1_loop.trips => rowSt (U := U) (F := F) d L (k.val + 1) t') :=
    bigSep_mono fun t' ht' => by
      have h1 : t' ≠ tFin (k.val - 1) := (Finset.mem_erase.mp ht').1
      have h2 : t' ≠ k := (Finset.mem_erase.mp (Finset.mem_erase.mp ht').2).1
      have e1 : t'.val + 1 ≠ k.val := fun h => h1 (Fin.ext (by omega))
      have e2 : t'.val + 1 ≠ k.val + 1 := fun h => h2 (Fin.ext (by omega))
      rw [rowSt_ne (F := F) (U := U) d L e1, rowSt_ne (F := F) (U := U) d L e2]
      exact BI.Entails.refl _
  iintro ⟨H, H0, H1⟩
  ihave Hs := (Entails.of_eq (SparseCore.bigSep_erase' (Φ := fun t' : Fin k3_t1_loop.trips => rowSt (U := U) (F := F) d L k.val t') hmem)) $$ H
  icases Hs with ⟨-, Hrest⟩
  iapply (Entails.of_eq (SparseCore.bigSep_erase' (Φ := fun t' : Fin k3_t1_loop.trips => rowSt (U := U) (F := F) d L (k.val + 1) t') (Finset.mem_univ k)).symm)
  isplitr
  · rw [rowSt_eq (F := F) (U := U) d L rfl]; iempintro
  iapply (Entails.of_eq (SparseCore.bigSep_erase' (Φ := fun t' : Fin k3_t1_loop.trips => rowSt (U := U) (F := F) d L (k.val + 1) t') hmem).symm)
  isplitl [H0 H1]
  · rw [rowSt_ne (F := F) (U := U) d L (show (tFin (k.val - 1)).val + 1 ≠ k.val + 1 by omega)]
    isplitl [H0]; · iexists fc0; iexact H0
    iexists fc1; iexact H1
  · iapply (SparseCore.ent hrest) $$ Hrest

set_option maxHeartbeats 8000000 in
/-- The first trip: no copy-out is pending. -/
theorem trip0 (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k3_t1_loop.trips) (hk : k.val = 0) (x : PUnit) :
    tripInv (U := U) d L Tx Ix O W k.val x
      ⊢ wp frame (wpE (defs₀ (F := F)) 𝒱₀ (V d (cV L) (jV L)) none) Set.univ
          (k3_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k x)
          fun y => tripInv (U := U) d L Tx Ix O W (k.val + 1) y := by
  have hc1 := cond1_zero hk
  have hc2 := cond2_zero hk
  have hrow : (k.val + 1 ≠ k.val) := Nat.succ_ne_self _
  unfold tripInv
  rw [if_pos hk, if_pos hk]
  unfold gFl0 gFl1
  iintro ⟨#Hmw, ⟨%fr0, %fr1, ⟨FG0, Hix0⟩, ⟨FG1, Hix1⟩⟩, ⟨%frr, Hrwr⟩, Hsh0, Hsh1, ⟨%fob, Hob, Hso0, Hso1⟩, Hrows, ⟨%W', %hW', HO⟩⟩
  ihave Hr := (Entails.of_eq (SparseCore.bigSep_erase' (Φ := fun t' : Fin k3_t1_loop.trips => rowSt (U := U) (F := F) d L k.val t') (Finset.mem_univ k))) $$ Hrows
  icases Hr with ⟨Hrow, Hrest⟩
  ihave Hrow' := (Entails.of_eq (rowSt_ne (F := F) (U := U) d L hrow)) $$ Hrow
  icases Hrow' with ⟨⟨%fc0, Hoc0⟩, ⟨%fc1, Hoc1⟩⟩
  unfold k3_t1_body
  -- slot 0: its gather waited for
  sl_exec
  -- slot 0 of the row scratch, back from its gather, joined to what is held of the scratch
  ihave Hj := (pts_join (F := F) (U := U) (sdiff_join_disj rw_slots_disjoint) fr0 frr) $$ [FG0_dst Hrwr]
  · isplitl [FG0_dst]; · iexact FG0_dst
    iexact Hrwr
  icases Hj with ⟨%g1, Hrw⟩
  rw [sdiff_join_left rw_slots_disjoint]
  -- the four sums of slot 0
  sl_for (fun (_ : Nat) (_ : PUnit) => (iprop(∃ fob' : Buf (Elt F) ((V d (cV L) (jV L)).loc cc3_scratch2),
      ((rwV).view.loc (V d (cV L) (jV L)) ↦[Finset.univ \ (rwK1).view.set]{fullShare} g1)
      ∗ ((obV).view.loc (V d (cV L) (jV L)) ↦{fullShare} fob')) : sProp 𝕄)) $$ [Hrw Hob]
  case region =>
    intro k2 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobA, Hrw, Hob⟩
  -- slot 0 copied out, its next gather started; slot 1's gather waited for
  sl_exec
  -- slot 1 of the row scratch joined
  ihave Hj := (pts_join (F := F) (U := U) (sdiff_join_disj rw_slots_disjoint.symm) fr1 _) $$ [FG1_dst Hrw]
  · isplitl [FG1_dst]; · iexact FG1_dst
    iexact Hrw
  icases Hj with ⟨%g2, Hrw⟩
  rw [sdiff_join_left rw_slots_disjoint.symm]
  -- the four sums of slot 1
  sl_for (fun (_ : Nat) (_ : PUnit) => (iprop(∃ fob' : Buf (Elt F) ((V d (cV L) (jV L)).loc cc3_scratch2),
      ((rwV).view.loc (V d (cV L) (jV L)) ↦[Finset.univ \ (rwK0).view.set]{fullShare} g2)
      ∗ ((obV).view.loc (V d (cV L) (jV L)) ↦[Finset.univ \ (obK0).view.set]{fullShare} fob')) : sProp 𝕄)) $$ [Hrw Hob]
  case region =>
    intro k3 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobB, Hrw, Hob⟩
  -- slot 1 copied out, its next gather started
  sl_exec
  sl_step
  -- the invariant, one trip on
  rw [if_neg (Nat.succ_ne_zero k.val), if_neg (Nat.succ_ne_zero k.val), Nat.add_sub_cancel, tFin_val]
  unfold oFl0 oFl1
  isplitr; · iexact Hmw
  isplitl [FG0 Hix0 FG1 Hix1]
  · iexists _; iexists _
    isplitl [FG0 Hix0]
    · isplitl [FG0]; · iexact FG0
      iexact Hix0
    · isplitl [FG1]; · iexact FG1
      iexact Hix1
  isplitl [Hrw]; · iexists _; iexact Hrw
  isplitl [Hsh0]; · iexact Hsh0
  isplitl [Hsh1]; · iexact Hsh1
  isplitl [Hso0 Hso1 Hob]
  · iexists _; iexists _; iexists _; iexists _; iexists _
    isplitl [Hso0]; · iexact Hso0
    isplitl [Hso1]; · iexact Hso1
    iexact Hob
  isplitl [Hrest]; · iapply (rows_step0 (F := F) (U := U) d L k hk); iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
/-- A later trip: the previous trip's two copy-outs are pending. -/
theorem tripS (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k3_t1_loop.trips) (hk : k.val ≠ 0) (x : PUnit) :
    tripInv (U := U) d L Tx Ix O W k.val x
      ⊢ wp frame (wpE (defs₀ (F := F)) 𝒱₀ (V d (cV L) (jV L)) none) Set.univ
          (k3_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k x)
          fun y => tripInv (U := U) d L Tx Ix O W (k.val + 1) y := by
  have hc1 := cond1_pos k hk
  have hc2 := cond2_pos k hk
  have hrow : (k.val + 1 ≠ k.val) := Nat.succ_ne_self _
  unfold tripInv
  rw [if_neg hk, if_neg hk]
  unfold gFl0 gFl1 oFl0 oFl1
  iintro ⟨#Hmw, ⟨%fr0, %fr1, ⟨FG0, Hix0⟩, ⟨FG1, Hix1⟩⟩, ⟨%frr, Hrwr⟩, Hsh0, Hsh1, ⟨%fob, %fc0p, %fc1p, %fob0, %fob1, FO0, FO1, Hobr⟩, Hrows, ⟨%W', %hW', HO⟩⟩
  ihave Hr := (Entails.of_eq (SparseCore.bigSep_erase' (Φ := fun t' : Fin k3_t1_loop.trips => rowSt (U := U) (F := F) d L k.val t') (Finset.mem_univ k))) $$ Hrows
  icases Hr with ⟨Hrow, Hrest⟩
  ihave Hrow' := (Entails.of_eq (rowSt_ne (F := F) (U := U) d L hrow)) $$ Hrow
  icases Hrow' with ⟨⟨%fc0, Hoc0⟩, ⟨%fc1, Hoc1⟩⟩
  unfold k3_t1_body
  -- slot 0: its gather waited for
  sl_exec
  -- slot 0 of the row scratch, back from its gather, joined to what is held of the scratch
  ihave Hj := (pts_join (F := F) (U := U) (sdiff_join_disj rw_slots_disjoint) fr0 frr) $$ [FG0_dst Hrwr]
  · isplitl [FG0_dst]; · iexact FG0_dst
    iexact Hrwr
  icases Hj with ⟨%g1, Hrw⟩
  rw [sdiff_join_left rw_slots_disjoint]
  -- slot 0 of the result scratch, back from its copy-out, joined to what is held of the scratch
  ihave Hjo := (pts_join (F := F) (U := U) (sdiff_join_disj ob_slots_disjoint) fob0 fob) $$ [FO0_src Hobr]
  · isplitl [FO0_src]; · iexact FO0_src
    iexact Hobr
  icases Hjo with ⟨%go1, Hob⟩
  rw [sdiff_join_left ob_slots_disjoint]
  -- the four sums of slot 0
  sl_for (fun (_ : Nat) (_ : PUnit) => (iprop(∃ fob' : Buf (Elt F) ((V d (cV L) (jV L)).loc cc3_scratch2),
      ((rwV).view.loc (V d (cV L) (jV L)) ↦[Finset.univ \ (rwK1).view.set]{fullShare} g1)
      ∗ ((obV).view.loc (V d (cV L) (jV L)) ↦[Finset.univ \ (obK1).view.set]{fullShare} fob')) : sProp 𝕄)) $$ [Hrw Hob]
  case region =>
    intro k2 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobA, Hrw, Hob⟩
  -- slot 0 copied out, its next gather started; slot 1's gather waited for
  sl_exec
  -- slot 1 of the row scratch joined
  ihave Hj := (pts_join (F := F) (U := U) (sdiff_join_disj rw_slots_disjoint.symm) fr1 _) $$ [FG1_dst Hrw]
  · isplitl [FG1_dst]; · iexact FG1_dst
    iexact Hrw
  icases Hj with ⟨%g2, Hrw⟩
  rw [sdiff_join_left rw_slots_disjoint.symm]
  -- slot 1 of the result scratch joined
  ihave Hjo := (pts_join (F := F) (U := U) (sdiff_join_disj ob_slots_disjoint.symm) fob1 _) $$ [FO1_src Hob]
  · isplitl [FO1_src]; · iexact FO1_src
    iexact Hob
  icases Hjo with ⟨%go2, Hob⟩
  rw [sdiff_join_left ob_slots_disjoint.symm]
  -- the four sums of slot 1
  sl_for (fun (_ : Nat) (_ : PUnit) => (iprop(∃ fob' : Buf (Elt F) ((V d (cV L) (jV L)).loc cc3_scratch2),
      ((rwV).view.loc (V d (cV L) (jV L)) ↦[Finset.univ \ (rwK0).view.set]{fullShare} g2)
      ∗ ((obV).view.loc (V d (cV L) (jV L)) ↦[Finset.univ \ (obK0).view.set]{fullShare} fob')) : sProp 𝕄)) $$ [Hrw Hob]
  case region =>
    intro k3 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobB, Hrw, Hob⟩
  -- slot 1 copied out, its next gather started
  sl_exec
  sl_step
  -- the invariant, one trip on
  rw [if_neg (Nat.succ_ne_zero k.val), if_neg (Nat.succ_ne_zero k.val), Nat.add_sub_cancel, tFin_val]
  isplitr; · iexact Hmw
  isplitl [FG0 Hix0 FG1 Hix1]
  · iexists _; iexists _
    isplitl [FG0 Hix0]
    · isplitl [FG0]; · iexact FG0
      iexact Hix0
    · isplitl [FG1]; · iexact FG1
      iexact Hix1
  isplitl [Hrw]; · iexists _; iexact Hrw
  isplitl [Hsh0]; · iexact Hsh0
  isplitl [Hsh1]; · iexact Hsh1
  isplitl [FO0 FO1 Hob]
  · iexists _; iexists _; iexists _; iexists _; iexists _
    isplitl [FO0]; · iexact FO0
    isplitl [FO1]; · iexact FO1
    iexact Hob
  isplitl [Hrest FO0_dst FO1_dst]
  · iapply (rows_stepS (F := F) (U := U) d L k hk fc0p fc1p)
    isplitl [Hrest]; · iexact Hrest
    isplitl [FO0_dst]; · iexact FO0_dst
    iexact FO1_dst
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One trip of the forty. -/
theorem trip_region (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k3_t1_loop.trips) (x : PUnit) :
    tripInv (U := U) d L Tx Ix O W k.val x
      ⊢ wp frame (wpE (defs₀ (F := F)) 𝒱₀ (V d (cV L) (jV L)) none) Set.univ
          (k3_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k x)
          fun y => tripInv (U := U) d L Tx Ix O W (k.val + 1) y := by
  by_cases hk : k.val = 0
  · exact trip0 (F := F) (U := U) d L Tx Ix hinR O W v2 k hk x
  · exact tripS (F := F) (U := U) d L Tx Ix hinR O W v2 k hk x

end Body
end Cert.Proof.TileB1
end
-- ==== Proof.BodyStepVC1K.lean ====
/-
  Small steps for the valued trips: joining pieces while keeping a piece's contents, the slots' elements, the chunk rows'
  three states and their update from trip to trip.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC1K
import proofs.«205366_g3083786518796_cont_9to1_852_38_alg».proof.Proof.BodyLemmasC1K
import proofs.«205366_g3083786518796_cont_9to1_852_38_alg».proof.Proof.BodyInvC1K
import proofs.«205366_g3083786518796_cont_9to1_852_38_alg».proof.Proof.BodyJoinC1K
import proofs.«205366_g3083786518796_cont_9to1_852_38_alg».proof.Proof.GSumK
import proofs.«205366_g3083786518796_cont_9to1_852_38_alg».proof.Proof.BodyInvVC1K
import proofs.«205366_g3083786518796_cont_9to1_852_38_alg».proof.Proof.BodyTripC1K
import Idealize.ShloMosaic.Lib.ValueIdx

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

section Body
variable (d : Dev nD) (L : grid3.Coords)

open Idealize.ShloMosaic.ValueIdx (ix1 ix2 ix3)

/-- Two pieces joined, the join keeping the first piece's contents on its elements. -/
theorem pts_joinV {ℓ : Loc nD τ sig} {q : PosShare TreeShare} {A B : Finset (Idx ℓ)} (h : Disjoint A B) (f g : Buf (Elt F) ℓ) :
    iprop((ℓ ↦[A]{q} f) ∗ (ℓ ↦[B]{q} g)) ⊢ (iprop(∃ h : Buf (Elt F) ℓ, ⌜∀ i ∈ A, h i = f i⌝ ∗ (ℓ ↦[A ∪ B]{q} h)) : sProp 𝕄) := by
  classical
  have e1 : (ℓ ↦[A]{q} f : sProp 𝕄) = ℓ ↦[A]{q} (fun i => if i ∈ A then f i else g i) := pointsTo_congr fun i hi => by simp [hi]
  have e2 : (ℓ ↦[B]{q} g : sProp 𝕄) = ℓ ↦[B]{q} (fun i => if i ∈ A then f i else g i) := pointsTo_congr fun i hi => by
    have : i ∉ A := fun ha => (Finset.disjoint_left.mp h ha hi)
    simp [this]
  iintro ⟨HA, HB⟩
  iexists (fun i => if i ∈ A then f i else g i)
  isplitr
  · ipureintro; intro i hi; simp [hi]
  ihave HA' := (Entails.of_eq e1) $$ HA
  ihave HB' := (Entails.of_eq e2) $$ HB
  iapply (pointsTo_split_subset (S := A ∪ B) (I := A) Finset.subset_union_left).2
  isplitl [HA']; · iexact HA'
  rw [Finset.union_sdiff_cancel_left h]; iexact HB'

theorem mem_rwK0 (r j : Fin 128) : (ix3 (0 : Fin 2) r j : S2x128x128.Idx) ∈ (rwK0).view.set := by
  rw [set_rwK0, Rect.mem_set_unit]
  intro a
  match a with
  | 0 => exact ⟨Nat.le_refl _, by show (0 : ℕ) < 0 + 1; omega⟩
  | 1 => exact ⟨Nat.zero_le _, by simpa using r.isLt⟩
  | 2 => exact ⟨Nat.zero_le _, by simpa using j.isLt⟩
theorem mem_rwK1 (r j : Fin 128) : (ix3 (1 : Fin 2) r j : S2x128x128.Idx) ∈ (rwK1).view.set := by
  rw [set_rwK1, Rect.mem_set_unit]
  intro a
  match a with
  | 0 => exact ⟨Nat.le_refl _, by show (1 : ℕ) < 1 + 1; omega⟩
  | 1 => exact ⟨Nat.zero_le _, by simpa using r.isLt⟩
  | 2 => exact ⟨Nat.zero_le _, by simpa using j.isLt⟩

section V
variable (Tx : S10000x128.Idx → Elt F .f32) (Ix : S32x10496.Idx → Elt F .i32)

theorem RowsOK_of_eq0 {n : ℕ} {f h : S2x128x128.Idx → Elt F .f32} (hf : RowsOK L Tx Ix 0 n f) (he : ∀ i ∈ (rwK0).view.set, h i = f i) : RowsOK L Tx Ix 0 n h :=
  fun r j => (he _ (mem_rwK0 r j)).trans (hf r j)
theorem RowsOK_of_eq1 {n : ℕ} {f h : S2x128x128.Idx → Elt F .f32} (hf : RowsOK L Tx Ix 1 n f) (he : ∀ i ∈ (rwK1).view.set, h i = f i) : RowsOK L Tx Ix 1 n h :=
  fun r j => (he _ (mem_rwK1 r j)).trans (hf r j)
theorem SumsOK_zero (b : Fin 2) (n : ℕ) (fob : S2x4x128.Idx → Elt F .f32) : SumsOK L Tx Ix b n 0 fob := fun _ _ h => absurd h (Nat.not_lt_zero _)

theorem rowStV_eq {t : ℕ} {t' : Fin k3_t1_loop.trips} (h : t'.val + 1 = t) : (rowStV (U := U) (F := F) d L Tx Ix t t' : sProp 𝕄) = iprop(emp) := by
  unfold rowStV; rw [if_pos h]
theorem rowStV_done {t : ℕ} {t' : Fin k3_t1_loop.trips} (h : t'.val + 1 ≠ t) (h2 : t'.val < t) :
    (rowStV (U := U) (F := F) d L Tx Ix t t' : sProp 𝕄)
      = iprop((∃ f, ⌜ChunkOK L Tx Ix t' 0 f⌝ ∗ ((oChunkK L t' 0).view.loc (V d (cV L) (jV L)) ↦[(oChunkK L t' 0).view.set]{fullShare} f))
        ∗ (∃ f, ⌜ChunkOK L Tx Ix t' 1 f⌝ ∗ ((oChunkK L t' 1).view.loc (V d (cV L) (jV L)) ↦[(oChunkK L t' 1).view.set]{fullShare} f))) := by
  unfold rowStV; rw [if_neg h, if_pos h2]
theorem rowStV_todo {t : ℕ} {t' : Fin k3_t1_loop.trips} (h : t'.val + 1 ≠ t) (h2 : ¬ t'.val < t) :
    (rowStV (U := U) (F := F) d L Tx Ix t t' : sProp 𝕄)
      = iprop((∃ f, (oChunkK L t' 0).view.loc (V d (cV L) (jV L)) ↦[(oChunkK L t' 0).view.set]{fullShare} f)
        ∗ (∃ f, (oChunkK L t' 1).view.loc (V d (cV L) (jV L)) ↦[(oChunkK L t' 1).view.set]{fullShare} f)) := by
  unfold rowStV; rw [if_neg h, if_neg h2]

/-- The chunk rows after the first trip. -/
theorem rows_step0V (k : Fin k3_t1_loop.trips) (hk : k.val = 0) :
    (bigSep (Finset.univ.erase k) fun t' : Fin k3_t1_loop.trips => rowStV (U := U) (F := F) d L Tx Ix k.val t')
    ⊢ bigSep Finset.univ fun t' : Fin k3_t1_loop.trips => rowStV (U := U) (F := F) d L Tx Ix (k.val + 1) t' := by
  have hrest : Idealize.SL.BI.Entails
      (bigSep (Finset.univ.erase k) fun t' : Fin k3_t1_loop.trips => rowStV (U := U) (F := F) d L Tx Ix k.val t')
      (bigSep (Finset.univ.erase k) fun t' : Fin k3_t1_loop.trips => rowStV (U := U) (F := F) d L Tx Ix (k.val + 1) t') :=
    bigSep_mono fun t' ht' => by
      have hne : t' ≠ k := (Finset.mem_erase.mp ht').1
      have hv : t'.val ≠ k.val := fun h => hne (Fin.ext h)
      rw [rowStV_todo (F := F) (U := U) d L Tx Ix (show t'.val + 1 ≠ k.val by omega) (show ¬ t'.val < k.val by omega),
        rowStV_todo (F := F) (U := U) d L Tx Ix (show t'.val + 1 ≠ k.val + 1 by omega) (show ¬ t'.val < k.val + 1 by omega)]
      exact BI.Entails.refl _
  iintro H
  iapply (Entails.of_eq (SparseCore.bigSep_erase' (Φ := fun t' : Fin k3_t1_loop.trips => rowStV (U := U) (F := F) d L Tx Ix (k.val + 1) t') (Finset.mem_univ k)).symm)
  isplitr
  · rw [rowStV_eq (F := F) (U := U) d L Tx Ix rfl]; iempintro
  · iapply (SparseCore.ent hrest) $$ H

/-- The chunk rows after a later trip: the previous trip's two chunks are back, holding their sums. -/
theorem rows_stepSV (k : Fin k3_t1_loop.trips) (hk : k.val ≠ 0)
    (fc0 : Buf (Elt F) ((oChunkK L (tFin (k.val - 1)) 0).view.loc (V d (cV L) (jV L))))
    (fc1 : Buf (Elt F) ((oChunkK L (tFin (k.val - 1)) 1).view.loc (V d (cV L) (jV L))))
    (h0 : ChunkOK L Tx Ix (tFin (k.val - 1)) 0 fc0) (h1 : ChunkOK L Tx Ix (tFin (k.val - 1)) 1 fc1) :
    iprop((bigSep (Finset.univ.erase k) fun t' : Fin k3_t1_loop.trips => rowStV (U := U) (F := F) d L Tx Ix k.val t')
      ∗ ((oChunkK L (tFin (k.val - 1)) 0).view.loc (V d (cV L) (jV L)) ↦[(oChunkK L (tFin (k.val - 1)) 0).view.set]{fullShare} fc0)
      ∗ ((oChunkK L (tFin (k.val - 1)) 1).view.loc (V d (cV L) (jV L)) ↦[(oChunkK L (tFin (k.val - 1)) 1).view.set]{fullShare} fc1))
    ⊢ bigSep Finset.univ fun t' : Fin k3_t1_loop.trips => rowStV (U := U) (F := F) d L Tx Ix (k.val + 1) t' := by
  have h40 := lt_of_lt_of_eq k.isLt k3_trips_eq
  have hkm : (tFin (k.val - 1)).val + 1 = k.val := by show min (k.val - 1) 39 + 1 = k.val; omega
  have hne : tFin (k.val - 1) ≠ k := fun h => by have := congrArg Fin.val h; omega
  have hmem : tFin (k.val - 1) ∈ Finset.univ.erase k := Finset.mem_erase.mpr ⟨hne, Finset.mem_univ _⟩
  have hrest : Idealize.SL.BI.Entails
      (bigSep ((Finset.univ.erase k).erase (tFin (k.val - 1))) fun t' : Fin k3_t1_loop.trips => rowStV (U := U) (F := F) d L Tx Ix k.val t')
      (bigSep ((Finset.univ.erase k).erase (tFin (k.val - 1))) fun t' : Fin k3_t1_loop.trips => rowStV (U := U) (F := F) d L Tx Ix (k.val + 1) t') :=
    bigSep_mono fun t' ht' => by
      have h1' : t' ≠ tFin (k.val - 1) := (Finset.mem_erase.mp ht').1
      have h2' : t' ≠ k := (Finset.mem_erase.mp (Finset.mem_erase.mp ht').2).1
      have e1 : t'.val + 1 ≠ k.val := fun h => h1' (Fin.ext (by omega))
      have e2 : t'.val ≠ k.val := fun h => h2' (Fin.ext h)
      by_cases hlt : t'.val < k.val
      · rw [rowStV_done (F := F) (U := U) d L Tx Ix e1 hlt, rowStV_done (F := F) (U := U) d L Tx Ix (show t'.val + 1 ≠ k.val + 1 by omega) (show t'.val < k.val + 1 by omega)]
        exact BI.Entails.refl _
      · rw [rowStV_todo (F := F) (U := U) d L Tx Ix e1 hlt, rowStV_todo (F := F) (U := U) d L Tx Ix (show t'.val + 1 ≠ k.val + 1 by omega) (show ¬ t'.val < k.val + 1 by omega)]
        exact BI.Entails.refl _
  iintro ⟨H, H0, H1⟩
  ihave Hs := (Entails.of_eq (SparseCore.bigSep_erase' (Φ := fun t' : Fin k3_t1_loop.trips => rowStV (U := U) (F := F) d L Tx Ix k.val t') hmem)) $$ H
  icases Hs with ⟨-, Hrest⟩
  iapply (Entails.of_eq (SparseCore.bigSep_erase' (Φ := fun t' : Fin k3_t1_loop.trips => rowStV (U := U) (F := F) d L Tx Ix (k.val + 1) t') (Finset.mem_univ k)).symm)
  isplitr
  · rw [rowStV_eq (F := F) (U := U) d L Tx Ix rfl]; iempintro
  iapply (Entails.of_eq (SparseCore.bigSep_erase' (Φ := fun t' : Fin k3_t1_loop.trips => rowStV (U := U) (F := F) d L Tx Ix (k.val + 1) t') hmem).symm)
  isplitl [H0 H1]
  · rw [rowStV_done (F := F) (U := U) d L Tx Ix (show (tFin (k.val - 1)).val + 1 ≠ k.val + 1 by omega) (show (tFin (k.val - 1)).val < k.val + 1 by omega)]
    isplitl [H0]
    · iexists fc0; isplitr; · ipureintro; exact h0
      iexact H0
    · iexists fc1; isplitr; · ipureintro; exact h1
      iexact H1
  · iapply (SparseCore.ent hrest) $$ Hrest

end V

end Body
end Cert.Proof.TileB1
end
-- ==== Proof.ScTree3K.lean ====
import proofs.«205366_g3083786518796_cont_9to1_852_38_alg».proof.Proof.ScTreeK

noncomputable section

/-!
# The second SparseCore kernel's summing payloads, read at a lane

For every payload of the kernel that adds vectors: `_lane` says the payload at lane `l` is the same pairwise sums of its
arguments' lanes.  For a store's payload (and for the last partial payload of lane group 7, which takes the sixteen
first-level sums): `_tree` says it is `tree32 w` once each argument's lane is known to be the sub-tree of `w` over the
positions that argument stands for — one load, or an earlier part's sum of 2, 4, … loads.
-/

namespace Cert.Proof.KB

open Cert.Kernel Cert.Kernel.Gen
open Idealize.ShloMosaic Idealize.ShloMosaic.ValueIdx

variable {F : FTy → Type} [FloatOps F]

theorem k3_pay1_lane (v114 : Vec F S1x1x16 .f32) (l : Fin 16) :
    k3_pay1 v114 (ix1 l) = v114 (ix3 (0 : Fin 1) (0 : Fin 1) l) := by
  unfold k3_pay1
  exact cast_16 v114 l

theorem k3_pay2_lane (v119 : Vec F S1x1x16 .f32) (l : Fin 16) :
    k3_pay2 v119 (ix1 l) = v119 (ix3 (0 : Fin 1) (0 : Fin 1) l) := by
  unfold k3_pay2
  exact cast_16 v119 l

theorem k3_pay3_lane (v124 : Vec F S1x1x16 .f32) (l : Fin 16) :
    k3_pay3 v124 (ix1 l) = v124 (ix3 (0 : Fin 1) (0 : Fin 1) l) := by
  unfold k3_pay3
  exact cast_16 v124 l

theorem k3_pay4_lane (v129 : Vec F S1x1x16 .f32) (l : Fin 16) :
    k3_pay4 v129 (ix1 l) = v129 (ix3 (0 : Fin 1) (0 : Fin 1) l) := by
  unfold k3_pay4
  exact cast_16 v129 l

theorem k3_pay5_lane (v134 : Vec F S1x1x16 .f32) (l : Fin 16) :
    k3_pay5 v134 (ix1 l) = v134 (ix3 (0 : Fin 1) (0 : Fin 1) l) := by
  unfold k3_pay5
  exact cast_16 v134 l

theorem k3_pay6_lane (v139 : Vec F S1x1x16 .f32) (l : Fin 16) :
    k3_pay6 v139 (ix1 l) = v139 (ix3 (0 : Fin 1) (0 : Fin 1) l) := by
  unfold k3_pay6
  exact cast_16 v139 l

theorem k3_pay7_lane (v144 : Vec F S1x1x16 .f32) (l : Fin 16) :
    k3_pay7 v144 (ix1 l) = v144 (ix3 (0 : Fin 1) (0 : Fin 1) l) := by
  unfold k3_pay7
  exact cast_16 v144 l

theorem k3_pay8_lane (v149 : Vec F S1x1x16 .f32) (l : Fin 16) :
    k3_pay8 v149 (ix1 l) = v149 (ix3 (0 : Fin 1) (0 : Fin 1) l) := by
  unfold k3_pay8
  exact cast_16 v149 l

theorem k3_pay9_lane (v154 : Vec F S1x1x16 .f32) (l : Fin 16) :
    k3_pay9 v154 (ix1 l) = v154 (ix3 (0 : Fin 1) (0 : Fin 1) l) := by
  unfold k3_pay9
  exact cast_16 v154 l

theorem k3_pay10_lane (v159 : Vec F S1x1x16 .f32) (l : Fin 16) :
    k3_pay10 v159 (ix1 l) = v159 (ix3 (0 : Fin 1) (0 : Fin 1) l) := by
  unfold k3_pay10
  exact cast_16 v159 l

theorem k3_pay11_lane (v164 : Vec F S1x1x16 .f32) (l : Fin 16) :
    k3_pay11 v164 (ix1 l) = v164 (ix3 (0 : Fin 1) (0 : Fin 1) l) := by
  unfold k3_pay11
  exact cast_16 v164 l

theorem k3_pay12_lane (v169 : Vec F S1x1x16 .f32) (l : Fin 16) :
    k3_pay12 v169 (ix1 l) = v169 (ix3 (0 : Fin 1) (0 : Fin 1) l) := by
  unfold k3_pay12
  exact cast_16 v169 l

theorem k3_pay13_lane (v174 : Vec F S1x1x16 .f32) (l : Fin 16) :
    k3_pay13 v174 (ix1 l) = v174 (ix3 (0 : Fin 1) (0 : Fin 1) l) := by
  unfold k3_pay13
  exact cast_16 v174 l

theorem k3_pay14_lane (v179 : Vec F S1x1x16 .f32) (l : Fin 16) :
    k3_pay14 v179 (ix1 l) = v179 (ix3 (0 : Fin 1) (0 : Fin 1) l) := by
  unfold k3_pay14
  exact cast_16 v179 l

theorem k3_pay15_lane (v184 : Vec F S1x1x16 .f32) (l : Fin 16) :
    k3_pay15 v184 (ix1 l) = v184 (ix3 (0 : Fin 1) (0 : Fin 1) l) := by
  unfold k3_pay15
  exact cast_16 v184 l

theorem k3_pay16_lane (v189 : Vec F S1x1x16 .f32) (l : Fin 16) :
    k3_pay16 v189 (ix1 l) = v189 (ix3 (0 : Fin 1) (0 : Fin 1) l) := by
  unfold k3_pay16
  exact cast_16 v189 l

theorem k3_pay17_lane (v194 : Vec F S1x1x16 .f32) (l : Fin 16) :
    k3_pay17 v194 (ix1 l) = v194 (ix3 (0 : Fin 1) (0 : Fin 1) l) := by
  unfold k3_pay17
  exact cast_16 v194 l

theorem k3_pay18_lane (v199 : Vec F S1x1x16 .f32) (l : Fin 16) :
    k3_pay18 v199 (ix1 l) = v199 (ix3 (0 : Fin 1) (0 : Fin 1) l) := by
  unfold k3_pay18
  exact cast_16 v199 l

theorem k3_pay19_lane (v204 : Vec F S1x1x16 .f32) (l : Fin 16) :
    k3_pay19 v204 (ix1 l) = v204 (ix3 (0 : Fin 1) (0 : Fin 1) l) := by
  unfold k3_pay19
  exact cast_16 v204 l

theorem k3_pay20_lane (v209 : Vec F S1x1x16 .f32) (l : Fin 16) :
    k3_pay20 v209 (ix1 l) = v209 (ix3 (0 : Fin 1) (0 : Fin 1) l) := by
  unfold k3_pay20
  exact cast_16 v209 l

theorem k3_pay21_lane (v214 : Vec F S1x1x16 .f32) (l : Fin 16) :
    k3_pay21 v214 (ix1 l) = v214 (ix3 (0 : Fin 1) (0 : Fin 1) l) := by
  unfold k3_pay21
  exact cast_16 v214 l

theorem k3_pay22_lane (v219 : Vec F S1x1x16 .f32) (l : Fin 16) :
    k3_pay22 v219 (ix1 l) = v219 (ix3 (0 : Fin 1) (0 : Fin 1) l) := by
  unfold k3_pay22
  exact cast_16 v219 l

theorem k3_pay23_lane (v224 : Vec F S1x1x16 .f32) (l : Fin 16) :
    k3_pay23 v224 (ix1 l) = v224 (ix3 (0 : Fin 1) (0 : Fin 1) l) := by
  unfold k3_pay23
  exact cast_16 v224 l

theorem k3_pay24_lane (v229 : Vec F S1x1x16 .f32) (l : Fin 16) :
    k3_pay24 v229 (ix1 l) = v229 (ix3 (0 : Fin 1) (0 : Fin 1) l) := by
  unfold k3_pay24
  exact cast_16 v229 l

theorem k3_pay25_lane (v234 : Vec F S1x1x16 .f32) (l : Fin 16) :
    k3_pay25 v234 (ix1 l) = v234 (ix3 (0 : Fin 1) (0 : Fin 1) l) := by
  unfold k3_pay25
  exact cast_16 v234 l

theorem k3_pay26_lane (v239 : Vec F S1x1x16 .f32) (l : Fin 16) :
    k3_pay26 v239 (ix1 l) = v239 (ix3 (0 : Fin 1) (0 : Fin 1) l) := by
  unfold k3_pay26
  exact cast_16 v239 l

theorem k3_pay27_lane (v244 : Vec F S1x1x16 .f32) (l : Fin 16) :
    k3_pay27 v244 (ix1 l) = v244 (ix3 (0 : Fin 1) (0 : Fin 1) l) := by
  unfold k3_pay27
  exact cast_16 v244 l

theorem k3_pay28_lane (v249 : Vec F S1x1x16 .f32) (l : Fin 16) :
    k3_pay28 v249 (ix1 l) = v249 (ix3 (0 : Fin 1) (0 : Fin 1) l) := by
  unfold k3_pay28
  exact cast_16 v249 l

theorem k3_pay29_lane (v254 : Vec F S1x1x16 .f32) (l : Fin 16) :
    k3_pay29 v254 (ix1 l) = v254 (ix3 (0 : Fin 1) (0 : Fin 1) l) := by
  unfold k3_pay29
  exact cast_16 v254 l

theorem k3_pay30_lane (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (l : Fin 16) :
    k3_pay30 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = FloatOps.addf (FloatOps.addf (FloatOps.addf (FloatOps.addf (FloatOps.addf (v115 (ix1 l)) (v120 (ix1 l))) (FloatOps.addf (v125 (ix1 l)) (v130 (ix1 l)))) (FloatOps.addf (FloatOps.addf (v135 (ix1 l)) (v140 (ix1 l))) (FloatOps.addf (v145 (ix1 l)) (v150 (ix1 l))))) (FloatOps.addf (FloatOps.addf (FloatOps.addf (v155 (ix1 l)) (v160 (ix1 l))) (FloatOps.addf (v165 (ix1 l)) (v170 (ix1 l)))) (FloatOps.addf (FloatOps.addf (v175 (ix1 l)) (v180 (ix1 l))) (FloatOps.addf (v185 (ix1 l)) (v190 (ix1 l)))))) (FloatOps.addf (FloatOps.addf (FloatOps.addf (FloatOps.addf (v195 (ix1 l)) (v200 (ix1 l))) (FloatOps.addf (v205 (ix1 l)) (v210 (ix1 l)))) (FloatOps.addf (FloatOps.addf (v215 (ix1 l)) (v220 (ix1 l))) (FloatOps.addf (v225 (ix1 l)) (v230 (ix1 l))))) (FloatOps.addf (FloatOps.addf (FloatOps.addf (v235 (ix1 l)) (v240 (ix1 l))) (FloatOps.addf (v245 (ix1 l)) (v250 (ix1 l)))) (FloatOps.addf (FloatOps.addf (v255 (ix1 l)) (v259 (ix3 (0 : Fin 1) (0 : Fin 1) l))) (FloatOps.addf (v264 (ix3 (0 : Fin 1) (0 : Fin 1) l)) (v269 (ix3 (0 : Fin 1) (0 : Fin 1) l)))))) := by
  unfold k3_pay30
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (cast_16 v259 l)) (congrArg₂ FloatOps.addf (cast_16 v264 l) (cast_16 v269 l)))))

theorem k3_pay30_tree (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (w : Fin 32 → F .f32) (l : Fin 16)
    (h_v115 : v115 (ix1 l) = w 0)
    (h_v120 : v120 (ix1 l) = w 1)
    (h_v125 : v125 (ix1 l) = w 2)
    (h_v130 : v130 (ix1 l) = w 3)
    (h_v135 : v135 (ix1 l) = w 4)
    (h_v140 : v140 (ix1 l) = w 5)
    (h_v145 : v145 (ix1 l) = w 6)
    (h_v150 : v150 (ix1 l) = w 7)
    (h_v155 : v155 (ix1 l) = w 8)
    (h_v160 : v160 (ix1 l) = w 9)
    (h_v165 : v165 (ix1 l) = w 10)
    (h_v170 : v170 (ix1 l) = w 11)
    (h_v175 : v175 (ix1 l) = w 12)
    (h_v180 : v180 (ix1 l) = w 13)
    (h_v185 : v185 (ix1 l) = w 14)
    (h_v190 : v190 (ix1 l) = w 15)
    (h_v195 : v195 (ix1 l) = w 16)
    (h_v200 : v200 (ix1 l) = w 17)
    (h_v205 : v205 (ix1 l) = w 18)
    (h_v210 : v210 (ix1 l) = w 19)
    (h_v215 : v215 (ix1 l) = w 20)
    (h_v220 : v220 (ix1 l) = w 21)
    (h_v225 : v225 (ix1 l) = w 22)
    (h_v230 : v230 (ix1 l) = w 23)
    (h_v235 : v235 (ix1 l) = w 24)
    (h_v240 : v240 (ix1 l) = w 25)
    (h_v245 : v245 (ix1 l) = w 26)
    (h_v250 : v250 (ix1 l) = w 27)
    (h_v255 : v255 (ix1 l) = w 28)
    (h_v259 : v259 (ix3 (0 : Fin 1) (0 : Fin 1) l) = w 29)
    (h_v264 : v264 (ix3 (0 : Fin 1) (0 : Fin 1) l) = w 30)
    (h_v269 : v269 (ix3 (0 : Fin 1) (0 : Fin 1) l) = w 31) :
    k3_pay30 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = tree32 w := by
  unfold k3_pay30
  refine (cast_116 _ l).trans ?_
  exact congrArg₂ FloatOps.addf (congrArg₂ FloatOps.addf (congrArg₂ FloatOps.addf (congrArg₂ FloatOps.addf (congrArg₂ FloatOps.addf (h_v115) (h_v120)) (congrArg₂ FloatOps.addf (h_v125) (h_v130))) (congrArg₂ FloatOps.addf (congrArg₂ FloatOps.addf (h_v135) (h_v140)) (congrArg₂ FloatOps.addf (h_v145) (h_v150)))) (congrArg₂ FloatOps.addf (congrArg₂ FloatOps.addf (congrArg₂ FloatOps.addf (h_v155) (h_v160)) (congrArg₂ FloatOps.addf (h_v165) (h_v170))) (congrArg₂ FloatOps.addf (congrArg₂ FloatOps.addf (h_v175) (h_v180)) (congrArg₂ FloatOps.addf (h_v185) (h_v190))))) (congrArg₂ FloatOps.addf (congrArg₂ FloatOps.addf (congrArg₂ FloatOps.addf (congrArg₂ FloatOps.addf (h_v195) (h_v200)) (congrArg₂ FloatOps.addf (h_v205) (h_v210))) (congrArg₂ FloatOps.addf (congrArg₂ FloatOps.addf (h_v215) (h_v220)) (congrArg₂ FloatOps.addf (h_v225) (h_v230)))) (congrArg₂ FloatOps.addf (congrArg₂ FloatOps.addf (congrArg₂ FloatOps.addf (h_v235) (h_v240)) (congrArg₂ FloatOps.addf (h_v245) (h_v250))) (congrArg₂ FloatOps.addf (congrArg₂ FloatOps.addf (h_v255) ((cast_16 v259 l).trans h_v259)) (congrArg₂ FloatOps.addf ((cast_16 v264 l).trans h_v264) ((cast_16 v269 l).trans h_v269)))))

theorem k3_pay31_lane (v310 : Vec F S1x1x16 .f32) (l : Fin 16) :
    k3_pay31 v310 (ix1 l) = v310 (ix3 (0 : Fin 1) (0 : Fin 1) l) := by
  unfold k3_pay31
  exact cast_16 v310 l

theorem k3_pay32_lane (v315 : Vec F S1x1x16 .f32) (l : Fin 16) :
    k3_pay32 v315 (ix1 l) = v315 (ix3 (0 : Fin 1) (0 : Fin 1) l) := by
  unfold k3_pay32
  exact cast_16 v315 l

theorem k3_pay33_lane (v320 : Vec F S1x1x16 .f32) (l : Fin 16) :
    k3_pay33 v320 (ix1 l) = v320 (ix3 (0 : Fin 1) (0 : Fin 1) l) := by
  unfold k3_pay33
  exact cast_16 v320 l

theorem k3_pay34_lane (v325 : Vec F S1x1x16 .f32) (l : Fin 16) :
    k3_pay34 v325 (ix1 l) = v325 (ix3 (0 : Fin 1) (0 : Fin 1) l) := by
  unfold k3_pay34
  exact cast_16 v325 l

theorem k3_pay35_lane (v330 : Vec F S1x1x16 .f32) (l : Fin 16) :
    k3_pay35 v330 (ix1 l) = v330 (ix3 (0 : Fin 1) (0 : Fin 1) l) := by
  unfold k3_pay35
  exact cast_16 v330 l

theorem k3_pay36_lane (v335 : Vec F S1x1x16 .f32) (l : Fin 16) :
    k3_pay36 v335 (ix1 l) = v335 (ix3 (0 : Fin 1) (0 : Fin 1) l) := by
  unfold k3_pay36
  exact cast_16 v335 l

theorem k3_pay37_lane (v340 : Vec F S1x1x16 .f32) (l : Fin 16) :
    k3_pay37 v340 (ix1 l) = v340 (ix3 (0 : Fin 1) (0 : Fin 1) l) := by
  unfold k3_pay37
  exact cast_16 v340 l

theorem k3_pay38_lane (v345 : Vec F S1x1x16 .f32) (l : Fin 16) :
    k3_pay38 v345 (ix1 l) = v345 (ix3 (0 : Fin 1) (0 : Fin 1) l) := by
  unfold k3_pay38
  exact cast_16 v345 l

theorem k3_pay39_lane (v350 : Vec F S1x1x16 .f32) (l : Fin 16) :
    k3_pay39 v350 (ix1 l) = v350 (ix3 (0 : Fin 1) (0 : Fin 1) l) := by
  unfold k3_pay39
  exact cast_16 v350 l

theorem k3_pay40_lane (v355 : Vec F S1x1x16 .f32) (l : Fin 16) :
    k3_pay40 v355 (ix1 l) = v355 (ix3 (0 : Fin 1) (0 : Fin 1) l) := by
  unfold k3_pay40
  exact cast_16 v355 l

theorem k3_pay41_lane (v360 : Vec F S1x1x16 .f32) (l : Fin 16) :
    k3_pay41 v360 (ix1 l) = v360 (ix3 (0 : Fin 1) (0 : Fin 1) l) := by
  unfold k3_pay41
  exact cast_16 v360 l

theorem k3_pay42_lane (v365 : Vec F S1x1x16 .f32) (l : Fin 16) :
    k3_pay42 v365 (ix1 l) = v365 (ix3 (0 : Fin 1) (0 : Fin 1) l) := by
  unfold k3_pay42
  exact cast_16 v365 l

theorem k3_pay43_lane (v370 : Vec F S1x1x16 .f32) (l : Fin 16) :
    k3_pay43 v370 (ix1 l) = v370 (ix3 (0 : Fin 1) (0 : Fin 1) l) := by
  unfold k3_pay43
  exact cast_16 v370 l

theorem k3_pay44_lane (v375 : Vec F S1x1x16 .f32) (l : Fin 16) :
    k3_pay44 v375 (ix1 l) = v375 (ix3 (0 : Fin 1) (0 : Fin 1) l) := by
  unfold k3_pay44
  exact cast_16 v375 l

theorem k3_pay45_lane (v380 : Vec F S1x1x16 .f32) (l : Fin 16) :
    k3_pay45 v380 (ix1 l) = v380 (ix3 (0 : Fin 1) (0 : Fin 1) l) := by
  unfold k3_pay45
  exact cast_16 v380 l

theorem k3_pay46_lane (v385 : Vec F S1x1x16 .f32) (l : Fin 16) :
    k3_pay46 v385 (ix1 l) = v385 (ix3 (0 : Fin 1) (0 : Fin 1) l) := by
  unfold k3_pay46
  exact cast_16 v385 l

theorem k3_pay47_lane (v390 : Vec F S1x1x16 .f32) (l : Fin 16) :
    k3_pay47 v390 (ix1 l) = v390 (ix3 (0 : Fin 1) (0 : Fin 1) l) := by
  unfold k3_pay47
  exact cast_16 v390 l

theorem k3_pay48_lane (v395 : Vec F S1x1x16 .f32) (l : Fin 16) :
    k3_pay48 v395 (ix1 l) = v395 (ix3 (0 : Fin 1) (0 : Fin 1) l) := by
  unfold k3_pay48
  exact cast_16 v395 l

theorem k3_pay49_lane (v400 : Vec F S1x1x16 .f32) (l : Fin 16) :
    k3_pay49 v400 (ix1 l) = v400 (ix3 (0 : Fin 1) (0 : Fin 1) l) := by
  unfold k3_pay49
  exact cast_16 v400 l

theorem k3_pay50_lane (v405 : Vec F S1x1x16 .f32) (l : Fin 16) :
    k3_pay50 v405 (ix1 l) = v405 (ix3 (0 : Fin 1) (0 : Fin 1) l) := by
  unfold k3_pay50
  exact cast_16 v405 l

theorem k3_pay51_lane (v410 : Vec F S1x1x16 .f32) (l : Fin 16) :
    k3_pay51 v410 (ix1 l) = v410 (ix3 (0 : Fin 1) (0 : Fin 1) l) := by
  unfold k3_pay51
  exact cast_16 v410 l

theorem k3_pay52_lane (v415 : Vec F S1x1x16 .f32) (l : Fin 16) :
    k3_pay52 v415 (ix1 l) = v415 (ix3 (0 : Fin 1) (0 : Fin 1) l) := by
  unfold k3_pay52
  exact cast_16 v415 l

theorem k3_pay53_lane (v420 : Vec F S1x1x16 .f32) (l : Fin 16) :
    k3_pay53 v420 (ix1 l) = v420 (ix3 (0 : Fin 1) (0 : Fin 1) l) := by
  unfold k3_pay53
  exact cast_16 v420 l

theorem k3_pay54_lane (v425 : Vec F S1x1x16 .f32) (l : Fin 16) :
    k3_pay54 v425 (ix1 l) = v425 (ix3 (0 : Fin 1) (0 : Fin 1) l) := by
  unfold k3_pay54
  exact cast_16 v425 l

theorem k3_pay55_lane (v430 : Vec F S1x1x16 .f32) (l : Fin 16) :
    k3_pay55 v430 (ix1 l) = v430 (ix3 (0 : Fin 1) (0 : Fin 1) l) := by
  unfold k3_pay55
  exact cast_16 v430 l

theorem k3_pay56_lane (v435 : Vec F S1x1x16 .f32) (l : Fin 16) :
    k3_pay56 v435 (ix1 l) = v435 (ix3 (0 : Fin 1) (0 : Fin 1) l) := by
  unfold k3_pay56
  exact cast_16 v435 l

theorem k3_pay57_lane (v440 : Vec F S1x1x16 .f32) (l : Fin 16) :
    k3_pay57 v440 (ix1 l) = v440 (ix3 (0 : Fin 1) (0 : Fin 1) l) := by
  unfold k3_pay57
  exact cast_16 v440 l

theorem k3_pay58_lane (v445 : Vec F S1x1x16 .f32) (l : Fin 16) :
    k3_pay58 v445 (ix1 l) = v445 (ix3 (0 : Fin 1) (0 : Fin 1) l) := by
  unfold k3_pay58
  exact cast_16 v445 l

theorem k3_pay59_lane (v450 : Vec F S1x1x16 .f32) (l : Fin 16) :
    k3_pay59 v450 (ix1 l) = v450 (ix3 (0 : Fin 1) (0 : Fin 1) l) := by
  unfold k3_pay59
  exact cast_16 v450 l

theorem k3_pay60_lane (v455 : Vec F S1x1x16 .f32) (l : Fin 16) :
    k3_pay60 v455 (ix1 l) = v455 (ix3 (0 : Fin 1) (0 : Fin 1) l) := by
  unfold k3_pay60
  exact cast_16 v455 l

theorem k3_pay61_lane (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (l : Fin 16) :
    k3_pay61 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = FloatOps.addf (FloatOps.addf (FloatOps.addf (FloatOps.addf (FloatOps.addf (v311 (ix1 l)) (v316 (ix1 l))) (FloatOps.addf (v321 (ix1 l)) (v326 (ix1 l)))) (FloatOps.addf (FloatOps.addf (v331 (ix1 l)) (v336 (ix1 l))) (FloatOps.addf (v341 (ix1 l)) (v346 (ix1 l))))) (FloatOps.addf (FloatOps.addf (FloatOps.addf (v351 (ix1 l)) (v356 (ix1 l))) (FloatOps.addf (v361 (ix1 l)) (v366 (ix1 l)))) (FloatOps.addf (FloatOps.addf (v371 (ix1 l)) (v376 (ix1 l))) (FloatOps.addf (v381 (ix1 l)) (v386 (ix1 l)))))) (FloatOps.addf (FloatOps.addf (FloatOps.addf (FloatOps.addf (v391 (ix1 l)) (v396 (ix1 l))) (FloatOps.addf (v401 (ix1 l)) (v406 (ix1 l)))) (FloatOps.addf (FloatOps.addf (v411 (ix1 l)) (v416 (ix1 l))) (FloatOps.addf (v421 (ix1 l)) (v426 (ix1 l))))) (FloatOps.addf (FloatOps.addf (FloatOps.addf (v431 (ix1 l)) (v436 (ix1 l))) (FloatOps.addf (v441 (ix1 l)) (v446 (ix1 l)))) (FloatOps.addf (FloatOps.addf (v451 (ix1 l)) (v456 (ix1 l))) (FloatOps.addf (v460 (ix3 (0 : Fin 1) (0 : Fin 1) l)) (v465 (ix3 (0 : Fin 1) (0 : Fin 1) l)))))) := by
  unfold k3_pay61
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v460 l) (cast_16 v465 l)))))

theorem k3_pay61_tree (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (w : Fin 32 → F .f32) (l : Fin 16)
    (h_v311 : v311 (ix1 l) = w 0)
    (h_v316 : v316 (ix1 l) = w 1)
    (h_v321 : v321 (ix1 l) = w 2)
    (h_v326 : v326 (ix1 l) = w 3)
    (h_v331 : v331 (ix1 l) = w 4)
    (h_v336 : v336 (ix1 l) = w 5)
    (h_v341 : v341 (ix1 l) = w 6)
    (h_v346 : v346 (ix1 l) = w 7)
    (h_v351 : v351 (ix1 l) = w 8)
    (h_v356 : v356 (ix1 l) = w 9)
    (h_v361 : v361 (ix1 l) = w 10)
    (h_v366 : v366 (ix1 l) = w 11)
    (h_v371 : v371 (ix1 l) = w 12)
    (h_v376 : v376 (ix1 l) = w 13)
    (h_v381 : v381 (ix1 l) = w 14)
    (h_v386 : v386 (ix1 l) = w 15)
    (h_v391 : v391 (ix1 l) = w 16)
    (h_v396 : v396 (ix1 l) = w 17)
    (h_v401 : v401 (ix1 l) = w 18)
    (h_v406 : v406 (ix1 l) = w 19)
    (h_v411 : v411 (ix1 l) = w 20)
    (h_v416 : v416 (ix1 l) = w 21)
    (h_v421 : v421 (ix1 l) = w 22)
    (h_v426 : v426 (ix1 l) = w 23)
    (h_v431 : v431 (ix1 l) = w 24)
    (h_v436 : v436 (ix1 l) = w 25)
    (h_v441 : v441 (ix1 l) = w 26)
    (h_v446 : v446 (ix1 l) = w 27)
    (h_v451 : v451 (ix1 l) = w 28)
    (h_v456 : v456 (ix1 l) = w 29)
    (h_v460 : v460 (ix3 (0 : Fin 1) (0 : Fin 1) l) = w 30)
    (h_v465 : v465 (ix3 (0 : Fin 1) (0 : Fin 1) l) = w 31) :
    k3_pay61 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = tree32 w := by
  unfold k3_pay61
  refine (cast_116 _ l).trans ?_
  exact congrArg₂ FloatOps.addf (congrArg₂ FloatOps.addf (congrArg₂ FloatOps.addf (congrArg₂ FloatOps.addf (congrArg₂ FloatOps.addf (h_v311) (h_v316)) (congrArg₂ FloatOps.addf (h_v321) (h_v326))) (congrArg₂ FloatOps.addf (congrArg₂ FloatOps.addf (h_v331) (h_v336)) (congrArg₂ FloatOps.addf (h_v341) (h_v346)))) (congrArg₂ FloatOps.addf (congrArg₂ FloatOps.addf (congrArg₂ FloatOps.addf (h_v351) (h_v356)) (congrArg₂ FloatOps.addf (h_v361) (h_v366))) (congrArg₂ FloatOps.addf (congrArg₂ FloatOps.addf (h_v371) (h_v376)) (congrArg₂ FloatOps.addf (h_v381) (h_v386))))) (congrArg₂ FloatOps.addf (congrArg₂ FloatOps.addf (congrArg₂ FloatOps.addf (congrArg₂ FloatOps.addf (h_v391) (h_v396)) (congrArg₂ FloatOps.addf (h_v401) (h_v406))) (congrArg₂ FloatOps.addf (congrArg₂ FloatOps.addf (h_v411) (h_v416)) (congrArg₂ FloatOps.addf (h_v421) (h_v426)))) (congrArg₂ FloatOps.addf (congrArg₂ FloatOps.addf (congrArg₂ FloatOps.addf (h_v431) (h_v436)) (congrArg₂ FloatOps.addf (h_v441) (h_v446))) (congrArg₂ FloatOps.addf (congrArg₂ FloatOps.addf (h_v451) (h_v456)) (congrArg₂ FloatOps.addf ((cast_16 v460 l).trans h_v460) ((cast_16 v465 l).trans h_v465)))))

theorem k3_pay62_lane (v506 : Vec F S1x1x16 .f32) (l : Fin 16) :
    k3_pay62 v506 (ix1 l) = v506 (ix3 (0 : Fin 1) (0 : Fin 1) l) := by
  unfold k3_pay62
  exact cast_16 v506 l

theorem k3_pay63_lane (v511 : Vec F S1x1x16 .f32) (l : Fin 16) :
    k3_pay63 v511 (ix1 l) = v511 (ix3 (0 : Fin 1) (0 : Fin 1) l) := by
  unfold k3_pay63
  exact cast_16 v511 l

theorem k3_pay64_lane (v516 : Vec F S1x1x16 .f32) (l : Fin 16) :
    k3_pay64 v516 (ix1 l) = v516 (ix3 (0 : Fin 1) (0 : Fin 1) l) := by
  unfold k3_pay64
  exact cast_16 v516 l

theorem k3_pay65_lane (v521 : Vec F S1x1x16 .f32) (l : Fin 16) :
    k3_pay65 v521 (ix1 l) = v521 (ix3 (0 : Fin 1) (0 : Fin 1) l) := by
  unfold k3_pay65
  exact cast_16 v521 l

theorem k3_pay66_lane (v526 : Vec F S1x1x16 .f32) (l : Fin 16) :
    k3_pay66 v526 (ix1 l) = v526 (ix3 (0 : Fin 1) (0 : Fin 1) l) := by
  unfold k3_pay66
  exact cast_16 v526 l

theorem k3_pay67_lane (v531 : Vec F S1x1x16 .f32) (l : Fin 16) :
    k3_pay67 v531 (ix1 l) = v531 (ix3 (0 : Fin 1) (0 : Fin 1) l) := by
  unfold k3_pay67
  exact cast_16 v531 l

theorem k3_pay68_lane (v536 : Vec F S1x1x16 .f32) (l : Fin 16) :
    k3_pay68 v536 (ix1 l) = v536 (ix3 (0 : Fin 1) (0 : Fin 1) l) := by
  unfold k3_pay68
  exact cast_16 v536 l

theorem k3_pay69_lane (v541 : Vec F S1x1x16 .f32) (l : Fin 16) :
    k3_pay69 v541 (ix1 l) = v541 (ix3 (0 : Fin 1) (0 : Fin 1) l) := by
  unfold k3_pay69
  exact cast_16 v541 l

theorem k3_pay70_lane (v546 : Vec F S1x1x16 .f32) (l : Fin 16) :
    k3_pay70 v546 (ix1 l) = v546 (ix3 (0 : Fin 1) (0 : Fin 1) l) := by
  unfold k3_pay70
  exact cast_16 v546 l

theorem k3_pay71_lane (v551 : Vec F S1x1x16 .f32) (l : Fin 16) :
    k3_pay71 v551 (ix1 l) = v551 (ix3 (0 : Fin 1) (0 : Fin 1) l) := by
  unfold k3_pay71
  exact cast_16 v551 l

theorem k3_pay72_lane (v556 : Vec F S1x1x16 .f32) (l : Fin 16) :
    k3_pay72 v556 (ix1 l) = v556 (ix3 (0 : Fin 1) (0 : Fin 1) l) := by
  unfold k3_pay72
  exact cast_16 v556 l

theorem k3_pay73_lane (v561 : Vec F S1x1x16 .f32) (l : Fin 16) :
    k3_pay73 v561 (ix1 l) = v561 (ix3 (0 : Fin 1) (0 : Fin 1) l) := by
  unfold k3_pay73
  exact cast_16 v561 l

theorem k3_pay74_lane (v566 : Vec F S1x1x16 .f32) (l : Fin 16) :
    k3_pay74 v566 (ix1 l) = v566 (ix3 (0 : Fin 1) (0 : Fin 1) l) := by
  unfold k3_pay74
  exact cast_16 v566 l

theorem k3_pay75_lane (v571 : Vec F S1x1x16 .f32) (l : Fin 16) :
    k3_pay75 v571 (ix1 l) = v571 (ix3 (0 : Fin 1) (0 : Fin 1) l) := by
  unfold k3_pay75
  exact cast_16 v571 l

theorem k3_pay76_lane (v576 : Vec F S1x1x16 .f32) (l : Fin 16) :
    k3_pay76 v576 (ix1 l) = v576 (ix3 (0 : Fin 1) (0 : Fin 1) l) := by
  unfold k3_pay76
  exact cast_16 v576 l

theorem k3_pay77_lane (v581 : Vec F S1x1x16 .f32) (l : Fin 16) :
    k3_pay77 v581 (ix1 l) = v581 (ix3 (0 : Fin 1) (0 : Fin 1) l) := by
  unfold k3_pay77
  exact cast_16 v581 l

theorem k3_pay78_lane (v586 : Vec F S1x1x16 .f32) (l : Fin 16) :
    k3_pay78 v586 (ix1 l) = v586 (ix3 (0 : Fin 1) (0 : Fin 1) l) := by
  unfold k3_pay78
  exact cast_16 v586 l

theorem k3_pay79_lane (v591 : Vec F S1x1x16 .f32) (l : Fin 16) :
    k3_pay79 v591 (ix1 l) = v591 (ix3 (0 : Fin 1) (0 : Fin 1) l) := by
  unfold k3_pay79
  exact cast_16 v591 l

theorem k3_pay80_lane (v596 : Vec F S1x1x16 .f32) (l : Fin 16) :
    k3_pay80 v596 (ix1 l) = v596 (ix3 (0 : Fin 1) (0 : Fin 1) l) := by
  unfold k3_pay80
  exact cast_16 v596 l

theorem k3_pay81_lane (v601 : Vec F S1x1x16 .f32) (l : Fin 16) :
    k3_pay81 v601 (ix1 l) = v601 (ix3 (0 : Fin 1) (0 : Fin 1) l) := by
  unfold k3_pay81
  exact cast_16 v601 l

theorem k3_pay82_lane (v606 : Vec F S1x1x16 .f32) (l : Fin 16) :
    k3_pay82 v606 (ix1 l) = v606 (ix3 (0 : Fin 1) (0 : Fin 1) l) := by
  unfold k3_pay82
  exact cast_16 v606 l

theorem k3_pay83_lane (v611 : Vec F S1x1x16 .f32) (l : Fin 16) :
    k3_pay83 v611 (ix1 l) = v611 (ix3 (0 : Fin 1) (0 : Fin 1) l) := by
  unfold k3_pay83
  exact cast_16 v611 l

theorem k3_pay84_lane (v616 : Vec F S1x1x16 .f32) (l : Fin 16) :
    k3_pay84 v616 (ix1 l) = v616 (ix3 (0 : Fin 1) (0 : Fin 1) l) := by
  unfold k3_pay84
  exact cast_16 v616 l

theorem k3_pay85_lane (v621 : Vec F S1x1x16 .f32) (l : Fin 16) :
    k3_pay85 v621 (ix1 l) = v621 (ix3 (0 : Fin 1) (0 : Fin 1) l) := by
  unfold k3_pay85
  exact cast_16 v621 l

theorem k3_pay86_lane (v626 : Vec F S1x1x16 .f32) (l : Fin 16) :
    k3_pay86 v626 (ix1 l) = v626 (ix3 (0 : Fin 1) (0 : Fin 1) l) := by
  unfold k3_pay86
  exact cast_16 v626 l

theorem k3_pay87_lane (v631 : Vec F S1x1x16 .f32) (l : Fin 16) :
    k3_pay87 v631 (ix1 l) = v631 (ix3 (0 : Fin 1) (0 : Fin 1) l) := by
  unfold k3_pay87
  exact cast_16 v631 l

theorem k3_pay88_lane (v636 : Vec F S1x1x16 .f32) (l : Fin 16) :
    k3_pay88 v636 (ix1 l) = v636 (ix3 (0 : Fin 1) (0 : Fin 1) l) := by
  unfold k3_pay88
  exact cast_16 v636 l

theorem k3_pay89_lane (v641 : Vec F S1x1x16 .f32) (l : Fin 16) :
    k3_pay89 v641 (ix1 l) = v641 (ix3 (0 : Fin 1) (0 : Fin 1) l) := by
  unfold k3_pay89
  exact cast_16 v641 l

theorem k3_pay90_lane (v646 : Vec F S1x1x16 .f32) (l : Fin 16) :
    k3_pay90 v646 (ix1 l) = v646 (ix3 (0 : Fin 1) (0 : Fin 1) l) := by
  unfold k3_pay90
  exact cast_16 v646 l

theorem k3_pay91_lane (v651 : Vec F S1x1x16 .f32) (l : Fin 16) :
    k3_pay91 v651 (ix1 l) = v651 (ix3 (0 : Fin 1) (0 : Fin 1) l) := by
  unfold k3_pay91
  exact cast_16 v651 l

theorem k3_pay92_lane (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (l : Fin 16) :
    k3_pay92 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = FloatOps.addf (FloatOps.addf (FloatOps.addf (FloatOps.addf (FloatOps.addf (v507 (ix1 l)) (v512 (ix1 l))) (FloatOps.addf (v517 (ix1 l)) (v522 (ix1 l)))) (FloatOps.addf (FloatOps.addf (v527 (ix1 l)) (v532 (ix1 l))) (FloatOps.addf (v537 (ix1 l)) (v542 (ix1 l))))) (FloatOps.addf (FloatOps.addf (FloatOps.addf (v547 (ix1 l)) (v552 (ix1 l))) (FloatOps.addf (v557 (ix1 l)) (v562 (ix1 l)))) (FloatOps.addf (FloatOps.addf (v567 (ix1 l)) (v572 (ix1 l))) (FloatOps.addf (v577 (ix1 l)) (v582 (ix1 l)))))) (FloatOps.addf (FloatOps.addf (FloatOps.addf (FloatOps.addf (v587 (ix1 l)) (v592 (ix1 l))) (FloatOps.addf (v597 (ix1 l)) (v602 (ix1 l)))) (FloatOps.addf (FloatOps.addf (v607 (ix1 l)) (v612 (ix1 l))) (FloatOps.addf (v617 (ix1 l)) (v622 (ix1 l))))) (FloatOps.addf (FloatOps.addf (FloatOps.addf (v627 (ix1 l)) (v632 (ix1 l))) (FloatOps.addf (v637 (ix1 l)) (v642 (ix1 l)))) (FloatOps.addf (FloatOps.addf (v647 (ix1 l)) (v652 (ix1 l))) (FloatOps.addf (v656 (ix3 (0 : Fin 1) (0 : Fin 1) l)) (v661 (ix3 (0 : Fin 1) (0 : Fin 1) l)))))) := by
  unfold k3_pay92
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v656 l) (cast_16 v661 l)))))

theorem k3_pay92_tree (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (w : Fin 32 → F .f32) (l : Fin 16)
    (h_v507 : v507 (ix1 l) = w 0)
    (h_v512 : v512 (ix1 l) = w 1)
    (h_v517 : v517 (ix1 l) = w 2)
    (h_v522 : v522 (ix1 l) = w 3)
    (h_v527 : v527 (ix1 l) = w 4)
    (h_v532 : v532 (ix1 l) = w 5)
    (h_v537 : v537 (ix1 l) = w 6)
    (h_v542 : v542 (ix1 l) = w 7)
    (h_v547 : v547 (ix1 l) = w 8)
    (h_v552 : v552 (ix1 l) = w 9)
    (h_v557 : v557 (ix1 l) = w 10)
    (h_v562 : v562 (ix1 l) = w 11)
    (h_v567 : v567 (ix1 l) = w 12)
    (h_v572 : v572 (ix1 l) = w 13)
    (h_v577 : v577 (ix1 l) = w 14)
    (h_v582 : v582 (ix1 l) = w 15)
    (h_v587 : v587 (ix1 l) = w 16)
    (h_v592 : v592 (ix1 l) = w 17)
    (h_v597 : v597 (ix1 l) = w 18)
    (h_v602 : v602 (ix1 l) = w 19)
    (h_v607 : v607 (ix1 l) = w 20)
    (h_v612 : v612 (ix1 l) = w 21)
    (h_v617 : v617 (ix1 l) = w 22)
    (h_v622 : v622 (ix1 l) = w 23)
    (h_v627 : v627 (ix1 l) = w 24)
    (h_v632 : v632 (ix1 l) = w 25)
    (h_v637 : v637 (ix1 l) = w 26)
    (h_v642 : v642 (ix1 l) = w 27)
    (h_v647 : v647 (ix1 l) = w 28)
    (h_v652 : v652 (ix1 l) = w 29)
    (h_v656 : v656 (ix3 (0 : Fin 1) (0 : Fin 1) l) = w 30)
    (h_v661 : v661 (ix3 (0 : Fin 1) (0 : Fin 1) l) = w 31) :
    k3_pay92 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = tree32 w := by
  unfold k3_pay92
  refine (cast_116 _ l).trans ?_
  exact congrArg₂ FloatOps.addf (congrArg₂ FloatOps.addf (congrArg₂ FloatOps.addf (congrArg₂ FloatOps.addf (congrArg₂ FloatOps.addf (h_v507) (h_v512)) (congrArg₂ FloatOps.addf (h_v517) (h_v522))) (congrArg₂ FloatOps.addf (congrArg₂ FloatOps.addf (h_v527) (h_v532)) (congrArg₂ FloatOps.addf (h_v537) (h_v542)))) (congrArg₂ FloatOps.addf (congrArg₂ FloatOps.addf (congrArg₂ FloatOps.addf (h_v547) (h_v552)) (congrArg₂ FloatOps.addf (h_v557) (h_v562))) (congrArg₂ FloatOps.addf (congrArg₂ FloatOps.addf (h_v567) (h_v572)) (congrArg₂ FloatOps.addf (h_v577) (h_v582))))) (congrArg₂ FloatOps.addf (congrArg₂ FloatOps.addf (congrArg₂ FloatOps.addf (congrArg₂ FloatOps.addf (h_v587) (h_v592)) (congrArg₂ FloatOps.addf (h_v597) (h_v602))) (congrArg₂ FloatOps.addf (congrArg₂ FloatOps.addf (h_v607) (h_v612)) (congrArg₂ FloatOps.addf (h_v617) (h_v622)))) (congrArg₂ FloatOps.addf (congrArg₂ FloatOps.addf (congrArg₂ FloatOps.addf (h_v627) (h_v632)) (congrArg₂ FloatOps.addf (h_v637) (h_v642))) (congrArg₂ FloatOps.addf (congrArg₂ FloatOps.addf (h_v647) (h_v652)) (congrArg₂ FloatOps.addf ((cast_16 v656 l).trans h_v656) ((cast_16 v661 l).trans h_v661)))))

theorem k3_pay93_lane (v702 : Vec F S1x1x16 .f32) (l : Fin 16) :
    k3_pay93 v702 (ix1 l) = v702 (ix3 (0 : Fin 1) (0 : Fin 1) l) := by
  unfold k3_pay93
  exact cast_16 v702 l

theorem k3_pay94_lane (v707 : Vec F S1x1x16 .f32) (l : Fin 16) :
    k3_pay94 v707 (ix1 l) = v707 (ix3 (0 : Fin 1) (0 : Fin 1) l) := by
  unfold k3_pay94
  exact cast_16 v707 l

theorem k3_pay95_lane (v712 : Vec F S1x1x16 .f32) (l : Fin 16) :
    k3_pay95 v712 (ix1 l) = v712 (ix3 (0 : Fin 1) (0 : Fin 1) l) := by
  unfold k3_pay95
  exact cast_16 v712 l

theorem k3_pay96_lane (v717 : Vec F S1x1x16 .f32) (l : Fin 16) :
    k3_pay96 v717 (ix1 l) = v717 (ix3 (0 : Fin 1) (0 : Fin 1) l) := by
  unfold k3_pay96
  exact cast_16 v717 l

theorem k3_pay97_lane (v722 : Vec F S1x1x16 .f32) (l : Fin 16) :
    k3_pay97 v722 (ix1 l) = v722 (ix3 (0 : Fin 1) (0 : Fin 1) l) := by
  unfold k3_pay97
  exact cast_16 v722 l

theorem k3_pay98_lane (v727 : Vec F S1x1x16 .f32) (l : Fin 16) :
    k3_pay98 v727 (ix1 l) = v727 (ix3 (0 : Fin 1) (0 : Fin 1) l) := by
  unfold k3_pay98
  exact cast_16 v727 l

theorem k3_pay99_lane (v732 : Vec F S1x1x16 .f32) (l : Fin 16) :
    k3_pay99 v732 (ix1 l) = v732 (ix3 (0 : Fin 1) (0 : Fin 1) l) := by
  unfold k3_pay99
  exact cast_16 v732 l

theorem k3_pay100_lane (v737 : Vec F S1x1x16 .f32) (l : Fin 16) :
    k3_pay100 v737 (ix1 l) = v737 (ix3 (0 : Fin 1) (0 : Fin 1) l) := by
  unfold k3_pay100
  exact cast_16 v737 l

theorem k3_pay101_lane (v742 : Vec F S1x1x16 .f32) (l : Fin 16) :
    k3_pay101 v742 (ix1 l) = v742 (ix3 (0 : Fin 1) (0 : Fin 1) l) := by
  unfold k3_pay101
  exact cast_16 v742 l

theorem k3_pay102_lane (v747 : Vec F S1x1x16 .f32) (l : Fin 16) :
    k3_pay102 v747 (ix1 l) = v747 (ix3 (0 : Fin 1) (0 : Fin 1) l) := by
  unfold k3_pay102
  exact cast_16 v747 l

theorem k3_pay103_lane (v752 : Vec F S1x1x16 .f32) (l : Fin 16) :
    k3_pay103 v752 (ix1 l) = v752 (ix3 (0 : Fin 1) (0 : Fin 1) l) := by
  unfold k3_pay103
  exact cast_16 v752 l

theorem k3_pay104_lane (v757 : Vec F S1x1x16 .f32) (l : Fin 16) :
    k3_pay104 v757 (ix1 l) = v757 (ix3 (0 : Fin 1) (0 : Fin 1) l) := by
  unfold k3_pay104
  exact cast_16 v757 l

theorem k3_pay105_lane (v762 : Vec F S1x1x16 .f32) (l : Fin 16) :
    k3_pay105 v762 (ix1 l) = v762 (ix3 (0 : Fin 1) (0 : Fin 1) l) := by
  unfold k3_pay105
  exact cast_16 v762 l

theorem k3_pay106_lane (v767 : Vec F S1x1x16 .f32) (l : Fin 16) :
    k3_pay106 v767 (ix1 l) = v767 (ix3 (0 : Fin 1) (0 : Fin 1) l) := by
  unfold k3_pay106
  exact cast_16 v767 l

theorem k3_pay107_lane (v772 : Vec F S1x1x16 .f32) (l : Fin 16) :
    k3_pay107 v772 (ix1 l) = v772 (ix3 (0 : Fin 1) (0 : Fin 1) l) := by
  unfold k3_pay107
  exact cast_16 v772 l

theorem k3_pay108_lane (v777 : Vec F S1x1x16 .f32) (l : Fin 16) :
    k3_pay108 v777 (ix1 l) = v777 (ix3 (0 : Fin 1) (0 : Fin 1) l) := by
  unfold k3_pay108
  exact cast_16 v777 l

theorem k3_pay109_lane (v782 : Vec F S1x1x16 .f32) (l : Fin 16) :
    k3_pay109 v782 (ix1 l) = v782 (ix3 (0 : Fin 1) (0 : Fin 1) l) := by
  unfold k3_pay109
  exact cast_16 v782 l

theorem k3_pay110_lane (v787 : Vec F S1x1x16 .f32) (l : Fin 16) :
    k3_pay110 v787 (ix1 l) = v787 (ix3 (0 : Fin 1) (0 : Fin 1) l) := by
  unfold k3_pay110
  exact cast_16 v787 l

theorem k3_pay111_lane (v792 : Vec F S1x1x16 .f32) (l : Fin 16) :
    k3_pay111 v792 (ix1 l) = v792 (ix3 (0 : Fin 1) (0 : Fin 1) l) := by
  unfold k3_pay111
  exact cast_16 v792 l

theorem k3_pay112_lane (v797 : Vec F S1x1x16 .f32) (l : Fin 16) :
    k3_pay112 v797 (ix1 l) = v797 (ix3 (0 : Fin 1) (0 : Fin 1) l) := by
  unfold k3_pay112
  exact cast_16 v797 l

theorem k3_pay113_lane (v802 : Vec F S1x1x16 .f32) (l : Fin 16) :
    k3_pay113 v802 (ix1 l) = v802 (ix3 (0 : Fin 1) (0 : Fin 1) l) := by
  unfold k3_pay113
  exact cast_16 v802 l

theorem k3_pay114_lane (v807 : Vec F S1x1x16 .f32) (l : Fin 16) :
    k3_pay114 v807 (ix1 l) = v807 (ix3 (0 : Fin 1) (0 : Fin 1) l) := by
  unfold k3_pay114
  exact cast_16 v807 l

theorem k3_pay115_lane (v812 : Vec F S1x1x16 .f32) (l : Fin 16) :
    k3_pay115 v812 (ix1 l) = v812 (ix3 (0 : Fin 1) (0 : Fin 1) l) := by
  unfold k3_pay115
  exact cast_16 v812 l

theorem k3_pay116_lane (v817 : Vec F S1x1x16 .f32) (l : Fin 16) :
    k3_pay116 v817 (ix1 l) = v817 (ix3 (0 : Fin 1) (0 : Fin 1) l) := by
  unfold k3_pay116
  exact cast_16 v817 l

theorem k3_pay117_lane (v822 : Vec F S1x1x16 .f32) (l : Fin 16) :
    k3_pay117 v822 (ix1 l) = v822 (ix3 (0 : Fin 1) (0 : Fin 1) l) := by
  unfold k3_pay117
  exact cast_16 v822 l

theorem k3_pay118_lane (v827 : Vec F S1x1x16 .f32) (l : Fin 16) :
    k3_pay118 v827 (ix1 l) = v827 (ix3 (0 : Fin 1) (0 : Fin 1) l) := by
  unfold k3_pay118
  exact cast_16 v827 l

theorem k3_pay119_lane (v832 : Vec F S1x1x16 .f32) (l : Fin 16) :
    k3_pay119 v832 (ix1 l) = v832 (ix3 (0 : Fin 1) (0 : Fin 1) l) := by
  unfold k3_pay119
  exact cast_16 v832 l

theorem k3_pay120_lane (v837 : Vec F S1x1x16 .f32) (l : Fin 16) :
    k3_pay120 v837 (ix1 l) = v837 (ix3 (0 : Fin 1) (0 : Fin 1) l) := by
  unfold k3_pay120
  exact cast_16 v837 l

theorem k3_pay121_lane (v842 : Vec F S1x1x16 .f32) (l : Fin 16) :
    k3_pay121 v842 (ix1 l) = v842 (ix3 (0 : Fin 1) (0 : Fin 1) l) := by
  unfold k3_pay121
  exact cast_16 v842 l

theorem k3_pay122_lane (v847 : Vec F S1x1x16 .f32) (l : Fin 16) :
    k3_pay122 v847 (ix1 l) = v847 (ix3 (0 : Fin 1) (0 : Fin 1) l) := by
  unfold k3_pay122
  exact cast_16 v847 l

theorem k3_pay123_lane (v852 : Vec F S1x1x16 .f32) (l : Fin 16) :
    k3_pay123 v852 (ix1 l) = v852 (ix3 (0 : Fin 1) (0 : Fin 1) l) := by
  unfold k3_pay123
  exact cast_16 v852 l

theorem k3_pay124_lane (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (l : Fin 16) :
    k3_pay124 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = FloatOps.addf (FloatOps.addf (FloatOps.addf (FloatOps.addf (FloatOps.addf (v703 (ix1 l)) (v708 (ix1 l))) (FloatOps.addf (v713 (ix1 l)) (v718 (ix1 l)))) (FloatOps.addf (FloatOps.addf (v723 (ix1 l)) (v728 (ix1 l))) (FloatOps.addf (v733 (ix1 l)) (v738 (ix1 l))))) (FloatOps.addf (FloatOps.addf (FloatOps.addf (v743 (ix1 l)) (v748 (ix1 l))) (FloatOps.addf (v753 (ix1 l)) (v758 (ix1 l)))) (FloatOps.addf (FloatOps.addf (v763 (ix1 l)) (v768 (ix1 l))) (FloatOps.addf (v773 (ix1 l)) (v778 (ix1 l)))))) (FloatOps.addf (FloatOps.addf (FloatOps.addf (FloatOps.addf (v783 (ix1 l)) (v788 (ix1 l))) (FloatOps.addf (v793 (ix1 l)) (v798 (ix1 l)))) (FloatOps.addf (FloatOps.addf (v803 (ix1 l)) (v808 (ix1 l))) (FloatOps.addf (v813 (ix1 l)) (v818 (ix1 l))))) (FloatOps.addf (FloatOps.addf (FloatOps.addf (v823 (ix1 l)) (v828 (ix1 l))) (FloatOps.addf (v833 (ix1 l)) (v838 (ix1 l)))) (FloatOps.addf (FloatOps.addf (v843 (ix1 l)) (v848 (ix1 l))) (FloatOps.addf (v853 (ix1 l)) (v857 (ix3 (0 : Fin 1) (0 : Fin 1) l)))))) := by
  unfold k3_pay124
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (cast_16 v857 l)))))

theorem k3_pay124_tree (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (w : Fin 32 → F .f32) (l : Fin 16)
    (h_v703 : v703 (ix1 l) = w 0)
    (h_v708 : v708 (ix1 l) = w 1)
    (h_v713 : v713 (ix1 l) = w 2)
    (h_v718 : v718 (ix1 l) = w 3)
    (h_v723 : v723 (ix1 l) = w 4)
    (h_v728 : v728 (ix1 l) = w 5)
    (h_v733 : v733 (ix1 l) = w 6)
    (h_v738 : v738 (ix1 l) = w 7)
    (h_v743 : v743 (ix1 l) = w 8)
    (h_v748 : v748 (ix1 l) = w 9)
    (h_v753 : v753 (ix1 l) = w 10)
    (h_v758 : v758 (ix1 l) = w 11)
    (h_v763 : v763 (ix1 l) = w 12)
    (h_v768 : v768 (ix1 l) = w 13)
    (h_v773 : v773 (ix1 l) = w 14)
    (h_v778 : v778 (ix1 l) = w 15)
    (h_v783 : v783 (ix1 l) = w 16)
    (h_v788 : v788 (ix1 l) = w 17)
    (h_v793 : v793 (ix1 l) = w 18)
    (h_v798 : v798 (ix1 l) = w 19)
    (h_v803 : v803 (ix1 l) = w 20)
    (h_v808 : v808 (ix1 l) = w 21)
    (h_v813 : v813 (ix1 l) = w 22)
    (h_v818 : v818 (ix1 l) = w 23)
    (h_v823 : v823 (ix1 l) = w 24)
    (h_v828 : v828 (ix1 l) = w 25)
    (h_v833 : v833 (ix1 l) = w 26)
    (h_v838 : v838 (ix1 l) = w 27)
    (h_v843 : v843 (ix1 l) = w 28)
    (h_v848 : v848 (ix1 l) = w 29)
    (h_v853 : v853 (ix1 l) = w 30)
    (h_v857 : v857 (ix3 (0 : Fin 1) (0 : Fin 1) l) = w 31) :
    k3_pay124 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = tree32 w := by
  unfold k3_pay124
  refine (cast_116 _ l).trans ?_
  exact congrArg₂ FloatOps.addf (congrArg₂ FloatOps.addf (congrArg₂ FloatOps.addf (congrArg₂ FloatOps.addf (congrArg₂ FloatOps.addf (h_v703) (h_v708)) (congrArg₂ FloatOps.addf (h_v713) (h_v718))) (congrArg₂ FloatOps.addf (congrArg₂ FloatOps.addf (h_v723) (h_v728)) (congrArg₂ FloatOps.addf (h_v733) (h_v738)))) (congrArg₂ FloatOps.addf (congrArg₂ FloatOps.addf (congrArg₂ FloatOps.addf (h_v743) (h_v748)) (congrArg₂ FloatOps.addf (h_v753) (h_v758))) (congrArg₂ FloatOps.addf (congrArg₂ FloatOps.addf (h_v763) (h_v768)) (congrArg₂ FloatOps.addf (h_v773) (h_v778))))) (congrArg₂ FloatOps.addf (congrArg₂ FloatOps.addf (congrArg₂ FloatOps.addf (congrArg₂ FloatOps.addf (h_v783) (h_v788)) (congrArg₂ FloatOps.addf (h_v793) (h_v798))) (congrArg₂ FloatOps.addf (congrArg₂ FloatOps.addf (h_v803) (h_v808)) (congrArg₂ FloatOps.addf (h_v813) (h_v818)))) (congrArg₂ FloatOps.addf (congrArg₂ FloatOps.addf (congrArg₂ FloatOps.addf (h_v823) (h_v828)) (congrArg₂ FloatOps.addf (h_v833) (h_v838))) (congrArg₂ FloatOps.addf (congrArg₂ FloatOps.addf (h_v843) (h_v848)) (congrArg₂ FloatOps.addf (h_v853) ((cast_16 v857 l).trans h_v857)))))

theorem k3_pay125_lane (v898 : Vec F S1x1x16 .f32) (l : Fin 16) :
    k3_pay125 v898 (ix1 l) = v898 (ix3 (0 : Fin 1) (0 : Fin 1) l) := by
  unfold k3_pay125
  exact cast_16 v898 l

theorem k3_pay126_lane (v903 : Vec F S1x1x16 .f32) (l : Fin 16) :
    k3_pay126 v903 (ix1 l) = v903 (ix3 (0 : Fin 1) (0 : Fin 1) l) := by
  unfold k3_pay126
  exact cast_16 v903 l

theorem k3_pay127_lane (v908 : Vec F S1x1x16 .f32) (l : Fin 16) :
    k3_pay127 v908 (ix1 l) = v908 (ix3 (0 : Fin 1) (0 : Fin 1) l) := by
  unfold k3_pay127
  exact cast_16 v908 l

theorem k3_pay128_lane (v913 : Vec F S1x1x16 .f32) (l : Fin 16) :
    k3_pay128 v913 (ix1 l) = v913 (ix3 (0 : Fin 1) (0 : Fin 1) l) := by
  unfold k3_pay128
  exact cast_16 v913 l

theorem k3_pay129_lane (v918 : Vec F S1x1x16 .f32) (l : Fin 16) :
    k3_pay129 v918 (ix1 l) = v918 (ix3 (0 : Fin 1) (0 : Fin 1) l) := by
  unfold k3_pay129
  exact cast_16 v918 l

theorem k3_pay130_lane (v923 : Vec F S1x1x16 .f32) (l : Fin 16) :
    k3_pay130 v923 (ix1 l) = v923 (ix3 (0 : Fin 1) (0 : Fin 1) l) := by
  unfold k3_pay130
  exact cast_16 v923 l

theorem k3_pay131_lane (v928 : Vec F S1x1x16 .f32) (l : Fin 16) :
    k3_pay131 v928 (ix1 l) = v928 (ix3 (0 : Fin 1) (0 : Fin 1) l) := by
  unfold k3_pay131
  exact cast_16 v928 l

theorem k3_pay132_lane (v933 : Vec F S1x1x16 .f32) (l : Fin 16) :
    k3_pay132 v933 (ix1 l) = v933 (ix3 (0 : Fin 1) (0 : Fin 1) l) := by
  unfold k3_pay132
  exact cast_16 v933 l

theorem k3_pay133_lane (v938 : Vec F S1x1x16 .f32) (l : Fin 16) :
    k3_pay133 v938 (ix1 l) = v938 (ix3 (0 : Fin 1) (0 : Fin 1) l) := by
  unfold k3_pay133
  exact cast_16 v938 l

theorem k3_pay134_lane (v943 : Vec F S1x1x16 .f32) (l : Fin 16) :
    k3_pay134 v943 (ix1 l) = v943 (ix3 (0 : Fin 1) (0 : Fin 1) l) := by
  unfold k3_pay134
  exact cast_16 v943 l

theorem k3_pay135_lane (v948 : Vec F S1x1x16 .f32) (l : Fin 16) :
    k3_pay135 v948 (ix1 l) = v948 (ix3 (0 : Fin 1) (0 : Fin 1) l) := by
  unfold k3_pay135
  exact cast_16 v948 l

theorem k3_pay136_lane (v953 : Vec F S1x1x16 .f32) (l : Fin 16) :
    k3_pay136 v953 (ix1 l) = v953 (ix3 (0 : Fin 1) (0 : Fin 1) l) := by
  unfold k3_pay136
  exact cast_16 v953 l

theorem k3_pay137_lane (v958 : Vec F S1x1x16 .f32) (l : Fin 16) :
    k3_pay137 v958 (ix1 l) = v958 (ix3 (0 : Fin 1) (0 : Fin 1) l) := by
  unfold k3_pay137
  exact cast_16 v958 l

theorem k3_pay138_lane (v963 : Vec F S1x1x16 .f32) (l : Fin 16) :
    k3_pay138 v963 (ix1 l) = v963 (ix3 (0 : Fin 1) (0 : Fin 1) l) := by
  unfold k3_pay138
  exact cast_16 v963 l

theorem k3_pay139_lane (v968 : Vec F S1x1x16 .f32) (l : Fin 16) :
    k3_pay139 v968 (ix1 l) = v968 (ix3 (0 : Fin 1) (0 : Fin 1) l) := by
  unfold k3_pay139
  exact cast_16 v968 l

theorem k3_pay140_lane (v973 : Vec F S1x1x16 .f32) (l : Fin 16) :
    k3_pay140 v973 (ix1 l) = v973 (ix3 (0 : Fin 1) (0 : Fin 1) l) := by
  unfold k3_pay140
  exact cast_16 v973 l

theorem k3_pay141_lane (v978 : Vec F S1x1x16 .f32) (l : Fin 16) :
    k3_pay141 v978 (ix1 l) = v978 (ix3 (0 : Fin 1) (0 : Fin 1) l) := by
  unfold k3_pay141
  exact cast_16 v978 l

theorem k3_pay142_lane (v983 : Vec F S1x1x16 .f32) (l : Fin 16) :
    k3_pay142 v983 (ix1 l) = v983 (ix3 (0 : Fin 1) (0 : Fin 1) l) := by
  unfold k3_pay142
  exact cast_16 v983 l

theorem k3_pay143_lane (v988 : Vec F S1x1x16 .f32) (l : Fin 16) :
    k3_pay143 v988 (ix1 l) = v988 (ix3 (0 : Fin 1) (0 : Fin 1) l) := by
  unfold k3_pay143
  exact cast_16 v988 l

theorem k3_pay144_lane (v993 : Vec F S1x1x16 .f32) (l : Fin 16) :
    k3_pay144 v993 (ix1 l) = v993 (ix3 (0 : Fin 1) (0 : Fin 1) l) := by
  unfold k3_pay144
  exact cast_16 v993 l

theorem k3_pay145_lane (v998 : Vec F S1x1x16 .f32) (l : Fin 16) :
    k3_pay145 v998 (ix1 l) = v998 (ix3 (0 : Fin 1) (0 : Fin 1) l) := by
  unfold k3_pay145
  exact cast_16 v998 l

theorem k3_pay146_lane (v1003 : Vec F S1x1x16 .f32) (l : Fin 16) :
    k3_pay146 v1003 (ix1 l) = v1003 (ix3 (0 : Fin 1) (0 : Fin 1) l) := by
  unfold k3_pay146
  exact cast_16 v1003 l

theorem k3_pay147_lane (v1008 : Vec F S1x1x16 .f32) (l : Fin 16) :
    k3_pay147 v1008 (ix1 l) = v1008 (ix3 (0 : Fin 1) (0 : Fin 1) l) := by
  unfold k3_pay147
  exact cast_16 v1008 l

theorem k3_pay148_lane (v1013 : Vec F S1x1x16 .f32) (l : Fin 16) :
    k3_pay148 v1013 (ix1 l) = v1013 (ix3 (0 : Fin 1) (0 : Fin 1) l) := by
  unfold k3_pay148
  exact cast_16 v1013 l

theorem k3_pay149_lane (v1018 : Vec F S1x1x16 .f32) (l : Fin 16) :
    k3_pay149 v1018 (ix1 l) = v1018 (ix3 (0 : Fin 1) (0 : Fin 1) l) := by
  unfold k3_pay149
  exact cast_16 v1018 l

theorem k3_pay150_lane (v1023 : Vec F S1x1x16 .f32) (l : Fin 16) :
    k3_pay150 v1023 (ix1 l) = v1023 (ix3 (0 : Fin 1) (0 : Fin 1) l) := by
  unfold k3_pay150
  exact cast_16 v1023 l

theorem k3_pay151_lane (v1028 : Vec F S1x1x16 .f32) (l : Fin 16) :
    k3_pay151 v1028 (ix1 l) = v1028 (ix3 (0 : Fin 1) (0 : Fin 1) l) := by
  unfold k3_pay151
  exact cast_16 v1028 l

theorem k3_pay152_lane (v1033 : Vec F S1x1x16 .f32) (l : Fin 16) :
    k3_pay152 v1033 (ix1 l) = v1033 (ix3 (0 : Fin 1) (0 : Fin 1) l) := by
  unfold k3_pay152
  exact cast_16 v1033 l

theorem k3_pay153_lane (v1038 : Vec F S1x1x16 .f32) (l : Fin 16) :
    k3_pay153 v1038 (ix1 l) = v1038 (ix3 (0 : Fin 1) (0 : Fin 1) l) := by
  unfold k3_pay153
  exact cast_16 v1038 l

theorem k3_pay154_lane (v1043 : Vec F S1x1x16 .f32) (l : Fin 16) :
    k3_pay154 v1043 (ix1 l) = v1043 (ix3 (0 : Fin 1) (0 : Fin 1) l) := by
  unfold k3_pay154
  exact cast_16 v1043 l

theorem k3_pay155_lane (v1048 : Vec F S1x1x16 .f32) (l : Fin 16) :
    k3_pay155 v1048 (ix1 l) = v1048 (ix3 (0 : Fin 1) (0 : Fin 1) l) := by
  unfold k3_pay155
  exact cast_16 v1048 l

theorem k3_pay156_lane (v1053 : Vec F S1x1x16 .f32) (l : Fin 16) :
    k3_pay156 v1053 (ix1 l) = v1053 (ix3 (0 : Fin 1) (0 : Fin 1) l) := by
  unfold k3_pay156
  exact cast_16 v1053 l

theorem k3_pay157_lane (v899 : FVec F S16 .f32) (v904 : FVec F S16 .f32) (l : Fin 16) :
    k3_pay157 v899 v904 (ix1 l) = FloatOps.addf (v899 (ix1 l)) (v904 (ix1 l)) := by
  unfold k3_pay157
  exact congrArg₂ FloatOps.addf (rfl) (rfl)

theorem k3_pay158_lane (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (l : Fin 16) :
    k3_pay158 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = FloatOps.addf (FloatOps.addf (FloatOps.addf (FloatOps.addf (v1055 (ix1 l)) (FloatOps.addf (v909 (ix1 l)) (v914 (ix1 l)))) (FloatOps.addf (FloatOps.addf (v919 (ix1 l)) (v924 (ix1 l))) (FloatOps.addf (v929 (ix1 l)) (v934 (ix1 l))))) (FloatOps.addf (FloatOps.addf (FloatOps.addf (v939 (ix1 l)) (v944 (ix1 l))) (FloatOps.addf (v949 (ix1 l)) (v954 (ix1 l)))) (FloatOps.addf (FloatOps.addf (v959 (ix1 l)) (v964 (ix1 l))) (FloatOps.addf (v969 (ix1 l)) (v974 (ix1 l)))))) (FloatOps.addf (FloatOps.addf (FloatOps.addf (FloatOps.addf (v979 (ix1 l)) (v984 (ix1 l))) (FloatOps.addf (v989 (ix1 l)) (v994 (ix1 l)))) (FloatOps.addf (FloatOps.addf (v999 (ix1 l)) (v1004 (ix1 l))) (FloatOps.addf (v1009 (ix1 l)) (v1014 (ix1 l))))) (FloatOps.addf (FloatOps.addf (FloatOps.addf (v1019 (ix1 l)) (v1024 (ix1 l))) (FloatOps.addf (v1029 (ix1 l)) (v1034 (ix1 l)))) (FloatOps.addf (FloatOps.addf (v1039 (ix1 l)) (v1044 (ix1 l))) (FloatOps.addf (v1049 (ix1 l)) (v1054 (ix1 l)))))) := by
  unfold k3_pay158
  refine (cast_116 _ l).trans ?_
  exact congrArg₂ FloatOps.addf (congrArg₂ FloatOps.addf (congrArg₂ FloatOps.addf (congrArg₂ FloatOps.addf (rfl) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k3_pay158_tree (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (w : Fin 32 → F .f32) (l : Fin 16)
    (h_v1055 : v1055 (ix1 l) = FloatOps.addf (w 0) (w 1))
    (h_v909 : v909 (ix1 l) = w 2)
    (h_v914 : v914 (ix1 l) = w 3)
    (h_v919 : v919 (ix1 l) = w 4)
    (h_v924 : v924 (ix1 l) = w 5)
    (h_v929 : v929 (ix1 l) = w 6)
    (h_v934 : v934 (ix1 l) = w 7)
    (h_v939 : v939 (ix1 l) = w 8)
    (h_v944 : v944 (ix1 l) = w 9)
    (h_v949 : v949 (ix1 l) = w 10)
    (h_v954 : v954 (ix1 l) = w 11)
    (h_v959 : v959 (ix1 l) = w 12)
    (h_v964 : v964 (ix1 l) = w 13)
    (h_v969 : v969 (ix1 l) = w 14)
    (h_v974 : v974 (ix1 l) = w 15)
    (h_v979 : v979 (ix1 l) = w 16)
    (h_v984 : v984 (ix1 l) = w 17)
    (h_v989 : v989 (ix1 l) = w 18)
    (h_v994 : v994 (ix1 l) = w 19)
    (h_v999 : v999 (ix1 l) = w 20)
    (h_v1004 : v1004 (ix1 l) = w 21)
    (h_v1009 : v1009 (ix1 l) = w 22)
    (h_v1014 : v1014 (ix1 l) = w 23)
    (h_v1019 : v1019 (ix1 l) = w 24)
    (h_v1024 : v1024 (ix1 l) = w 25)
    (h_v1029 : v1029 (ix1 l) = w 26)
    (h_v1034 : v1034 (ix1 l) = w 27)
    (h_v1039 : v1039 (ix1 l) = w 28)
    (h_v1044 : v1044 (ix1 l) = w 29)
    (h_v1049 : v1049 (ix1 l) = w 30)
    (h_v1054 : v1054 (ix1 l) = w 31) :
    k3_pay158 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = tree32 w := by
  unfold k3_pay158
  refine (cast_116 _ l).trans ?_
  exact congrArg₂ FloatOps.addf (congrArg₂ FloatOps.addf (congrArg₂ FloatOps.addf (congrArg₂ FloatOps.addf (h_v1055) (congrArg₂ FloatOps.addf (h_v909) (h_v914))) (congrArg₂ FloatOps.addf (congrArg₂ FloatOps.addf (h_v919) (h_v924)) (congrArg₂ FloatOps.addf (h_v929) (h_v934)))) (congrArg₂ FloatOps.addf (congrArg₂ FloatOps.addf (congrArg₂ FloatOps.addf (h_v939) (h_v944)) (congrArg₂ FloatOps.addf (h_v949) (h_v954))) (congrArg₂ FloatOps.addf (congrArg₂ FloatOps.addf (h_v959) (h_v964)) (congrArg₂ FloatOps.addf (h_v969) (h_v974))))) (congrArg₂ FloatOps.addf (congrArg₂ FloatOps.addf (congrArg₂ FloatOps.addf (congrArg₂ FloatOps.addf (h_v979) (h_v984)) (congrArg₂ FloatOps.addf (h_v989) (h_v994))) (congrArg₂ FloatOps.addf (congrArg₂ FloatOps.addf (h_v999) (h_v1004)) (congrArg₂ FloatOps.addf (h_v1009) (h_v1014)))) (congrArg₂ FloatOps.addf (congrArg₂ FloatOps.addf (congrArg₂ FloatOps.addf (h_v1019) (h_v1024)) (congrArg₂ FloatOps.addf (h_v1029) (h_v1034))) (congrArg₂ FloatOps.addf (congrArg₂ FloatOps.addf (h_v1039) (h_v1044)) (congrArg₂ FloatOps.addf (h_v1049) (h_v1054)))))

theorem k3_pay159_lane (v1094 : Vec F S1x1x16 .f32) (l : Fin 16) :
    k3_pay159 v1094 (ix1 l) = v1094 (ix3 (0 : Fin 1) (0 : Fin 1) l) := by
  unfold k3_pay159
  exact cast_16 v1094 l

theorem k3_pay160_lane (v1099 : Vec F S1x1x16 .f32) (l : Fin 16) :
    k3_pay160 v1099 (ix1 l) = v1099 (ix3 (0 : Fin 1) (0 : Fin 1) l) := by
  unfold k3_pay160
  exact cast_16 v1099 l

theorem k3_pay161_lane (v1104 : Vec F S1x1x16 .f32) (l : Fin 16) :
    k3_pay161 v1104 (ix1 l) = v1104 (ix3 (0 : Fin 1) (0 : Fin 1) l) := by
  unfold k3_pay161
  exact cast_16 v1104 l

theorem k3_pay162_lane (v1109 : Vec F S1x1x16 .f32) (l : Fin 16) :
    k3_pay162 v1109 (ix1 l) = v1109 (ix3 (0 : Fin 1) (0 : Fin 1) l) := by
  unfold k3_pay162
  exact cast_16 v1109 l

theorem k3_pay163_lane (v1114 : Vec F S1x1x16 .f32) (l : Fin 16) :
    k3_pay163 v1114 (ix1 l) = v1114 (ix3 (0 : Fin 1) (0 : Fin 1) l) := by
  unfold k3_pay163
  exact cast_16 v1114 l

theorem k3_pay164_lane (v1119 : Vec F S1x1x16 .f32) (l : Fin 16) :
    k3_pay164 v1119 (ix1 l) = v1119 (ix3 (0 : Fin 1) (0 : Fin 1) l) := by
  unfold k3_pay164
  exact cast_16 v1119 l

theorem k3_pay165_lane (v1124 : Vec F S1x1x16 .f32) (l : Fin 16) :
    k3_pay165 v1124 (ix1 l) = v1124 (ix3 (0 : Fin 1) (0 : Fin 1) l) := by
  unfold k3_pay165
  exact cast_16 v1124 l

theorem k3_pay166_lane (v1129 : Vec F S1x1x16 .f32) (l : Fin 16) :
    k3_pay166 v1129 (ix1 l) = v1129 (ix3 (0 : Fin 1) (0 : Fin 1) l) := by
  unfold k3_pay166
  exact cast_16 v1129 l

theorem k3_pay167_lane (v1134 : Vec F S1x1x16 .f32) (l : Fin 16) :
    k3_pay167 v1134 (ix1 l) = v1134 (ix3 (0 : Fin 1) (0 : Fin 1) l) := by
  unfold k3_pay167
  exact cast_16 v1134 l

theorem k3_pay168_lane (v1139 : Vec F S1x1x16 .f32) (l : Fin 16) :
    k3_pay168 v1139 (ix1 l) = v1139 (ix3 (0 : Fin 1) (0 : Fin 1) l) := by
  unfold k3_pay168
  exact cast_16 v1139 l

theorem k3_pay169_lane (v1144 : Vec F S1x1x16 .f32) (l : Fin 16) :
    k3_pay169 v1144 (ix1 l) = v1144 (ix3 (0 : Fin 1) (0 : Fin 1) l) := by
  unfold k3_pay169
  exact cast_16 v1144 l

theorem k3_pay170_lane (v1149 : Vec F S1x1x16 .f32) (l : Fin 16) :
    k3_pay170 v1149 (ix1 l) = v1149 (ix3 (0 : Fin 1) (0 : Fin 1) l) := by
  unfold k3_pay170
  exact cast_16 v1149 l

theorem k3_pay171_lane (v1154 : Vec F S1x1x16 .f32) (l : Fin 16) :
    k3_pay171 v1154 (ix1 l) = v1154 (ix3 (0 : Fin 1) (0 : Fin 1) l) := by
  unfold k3_pay171
  exact cast_16 v1154 l

theorem k3_pay172_lane (v1159 : Vec F S1x1x16 .f32) (l : Fin 16) :
    k3_pay172 v1159 (ix1 l) = v1159 (ix3 (0 : Fin 1) (0 : Fin 1) l) := by
  unfold k3_pay172
  exact cast_16 v1159 l

theorem k3_pay173_lane (v1164 : Vec F S1x1x16 .f32) (l : Fin 16) :
    k3_pay173 v1164 (ix1 l) = v1164 (ix3 (0 : Fin 1) (0 : Fin 1) l) := by
  unfold k3_pay173
  exact cast_16 v1164 l

theorem k3_pay174_lane (v1169 : Vec F S1x1x16 .f32) (l : Fin 16) :
    k3_pay174 v1169 (ix1 l) = v1169 (ix3 (0 : Fin 1) (0 : Fin 1) l) := by
  unfold k3_pay174
  exact cast_16 v1169 l

theorem k3_pay175_lane (v1174 : Vec F S1x1x16 .f32) (l : Fin 16) :
    k3_pay175 v1174 (ix1 l) = v1174 (ix3 (0 : Fin 1) (0 : Fin 1) l) := by
  unfold k3_pay175
  exact cast_16 v1174 l

theorem k3_pay176_lane (v1179 : Vec F S1x1x16 .f32) (l : Fin 16) :
    k3_pay176 v1179 (ix1 l) = v1179 (ix3 (0 : Fin 1) (0 : Fin 1) l) := by
  unfold k3_pay176
  exact cast_16 v1179 l

theorem k3_pay177_lane (v1184 : Vec F S1x1x16 .f32) (l : Fin 16) :
    k3_pay177 v1184 (ix1 l) = v1184 (ix3 (0 : Fin 1) (0 : Fin 1) l) := by
  unfold k3_pay177
  exact cast_16 v1184 l

theorem k3_pay178_lane (v1189 : Vec F S1x1x16 .f32) (l : Fin 16) :
    k3_pay178 v1189 (ix1 l) = v1189 (ix3 (0 : Fin 1) (0 : Fin 1) l) := by
  unfold k3_pay178
  exact cast_16 v1189 l

theorem k3_pay179_lane (v1194 : Vec F S1x1x16 .f32) (l : Fin 16) :
    k3_pay179 v1194 (ix1 l) = v1194 (ix3 (0 : Fin 1) (0 : Fin 1) l) := by
  unfold k3_pay179
  exact cast_16 v1194 l

theorem k3_pay180_lane (v1199 : Vec F S1x1x16 .f32) (l : Fin 16) :
    k3_pay180 v1199 (ix1 l) = v1199 (ix3 (0 : Fin 1) (0 : Fin 1) l) := by
  unfold k3_pay180
  exact cast_16 v1199 l

theorem k3_pay181_lane (v1204 : Vec F S1x1x16 .f32) (l : Fin 16) :
    k3_pay181 v1204 (ix1 l) = v1204 (ix3 (0 : Fin 1) (0 : Fin 1) l) := by
  unfold k3_pay181
  exact cast_16 v1204 l

theorem k3_pay182_lane (v1209 : Vec F S1x1x16 .f32) (l : Fin 16) :
    k3_pay182 v1209 (ix1 l) = v1209 (ix3 (0 : Fin 1) (0 : Fin 1) l) := by
  unfold k3_pay182
  exact cast_16 v1209 l

theorem k3_pay183_lane (v1214 : Vec F S1x1x16 .f32) (l : Fin 16) :
    k3_pay183 v1214 (ix1 l) = v1214 (ix3 (0 : Fin 1) (0 : Fin 1) l) := by
  unfold k3_pay183
  exact cast_16 v1214 l

theorem k3_pay184_lane (v1219 : Vec F S1x1x16 .f32) (l : Fin 16) :
    k3_pay184 v1219 (ix1 l) = v1219 (ix3 (0 : Fin 1) (0 : Fin 1) l) := by
  unfold k3_pay184
  exact cast_16 v1219 l

theorem k3_pay185_lane (v1224 : Vec F S1x1x16 .f32) (l : Fin 16) :
    k3_pay185 v1224 (ix1 l) = v1224 (ix3 (0 : Fin 1) (0 : Fin 1) l) := by
  unfold k3_pay185
  exact cast_16 v1224 l

theorem k3_pay186_lane (v1229 : Vec F S1x1x16 .f32) (l : Fin 16) :
    k3_pay186 v1229 (ix1 l) = v1229 (ix3 (0 : Fin 1) (0 : Fin 1) l) := by
  unfold k3_pay186
  exact cast_16 v1229 l

theorem k3_pay187_lane (v1234 : Vec F S1x1x16 .f32) (l : Fin 16) :
    k3_pay187 v1234 (ix1 l) = v1234 (ix3 (0 : Fin 1) (0 : Fin 1) l) := by
  unfold k3_pay187
  exact cast_16 v1234 l

theorem k3_pay188_lane (v1239 : Vec F S1x1x16 .f32) (l : Fin 16) :
    k3_pay188 v1239 (ix1 l) = v1239 (ix3 (0 : Fin 1) (0 : Fin 1) l) := by
  unfold k3_pay188
  exact cast_16 v1239 l

theorem k3_pay189_lane (v1244 : Vec F S1x1x16 .f32) (l : Fin 16) :
    k3_pay189 v1244 (ix1 l) = v1244 (ix3 (0 : Fin 1) (0 : Fin 1) l) := by
  unfold k3_pay189
  exact cast_16 v1244 l

theorem k3_pay190_lane (v1249 : Vec F S1x1x16 .f32) (l : Fin 16) :
    k3_pay190 v1249 (ix1 l) = v1249 (ix3 (0 : Fin 1) (0 : Fin 1) l) := by
  unfold k3_pay190
  exact cast_16 v1249 l

theorem k3_pay191_lane (v1095 : FVec F S16 .f32) (v1100 : FVec F S16 .f32) (l : Fin 16) :
    k3_pay191 v1095 v1100 (ix1 l) = FloatOps.addf (v1095 (ix1 l)) (v1100 (ix1 l)) := by
  unfold k3_pay191
  exact congrArg₂ FloatOps.addf (rfl) (rfl)

theorem k3_pay192_lane (v1105 : FVec F S16 .f32) (v1110 : FVec F S16 .f32) (l : Fin 16) :
    k3_pay192 v1105 v1110 (ix1 l) = FloatOps.addf (v1105 (ix1 l)) (v1110 (ix1 l)) := by
  unfold k3_pay192
  exact congrArg₂ FloatOps.addf (rfl) (rfl)

theorem k3_pay193_lane (v1115 : FVec F S16 .f32) (v1120 : FVec F S16 .f32) (l : Fin 16) :
    k3_pay193 v1115 v1120 (ix1 l) = FloatOps.addf (v1115 (ix1 l)) (v1120 (ix1 l)) := by
  unfold k3_pay193
  exact congrArg₂ FloatOps.addf (rfl) (rfl)

theorem k3_pay194_lane (v1125 : FVec F S16 .f32) (v1130 : FVec F S16 .f32) (l : Fin 16) :
    k3_pay194 v1125 v1130 (ix1 l) = FloatOps.addf (v1125 (ix1 l)) (v1130 (ix1 l)) := by
  unfold k3_pay194
  exact congrArg₂ FloatOps.addf (rfl) (rfl)

theorem k3_pay195_lane (v1135 : FVec F S16 .f32) (v1140 : FVec F S16 .f32) (l : Fin 16) :
    k3_pay195 v1135 v1140 (ix1 l) = FloatOps.addf (v1135 (ix1 l)) (v1140 (ix1 l)) := by
  unfold k3_pay195
  exact congrArg₂ FloatOps.addf (rfl) (rfl)

theorem k3_pay196_lane (v1145 : FVec F S16 .f32) (v1150 : FVec F S16 .f32) (l : Fin 16) :
    k3_pay196 v1145 v1150 (ix1 l) = FloatOps.addf (v1145 (ix1 l)) (v1150 (ix1 l)) := by
  unfold k3_pay196
  exact congrArg₂ FloatOps.addf (rfl) (rfl)

theorem k3_pay197_lane (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (l : Fin 16) :
    k3_pay197 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = FloatOps.addf (FloatOps.addf (FloatOps.addf (FloatOps.addf (v1251 (ix1 l)) (v1252 (ix1 l))) (FloatOps.addf (v1253 (ix1 l)) (v1254 (ix1 l)))) (FloatOps.addf (FloatOps.addf (v1255 (ix1 l)) (v1256 (ix1 l))) (FloatOps.addf (FloatOps.addf (v1155 (ix1 l)) (v1160 (ix1 l))) (FloatOps.addf (v1165 (ix1 l)) (v1170 (ix1 l)))))) (FloatOps.addf (FloatOps.addf (FloatOps.addf (FloatOps.addf (v1175 (ix1 l)) (v1180 (ix1 l))) (FloatOps.addf (v1185 (ix1 l)) (v1190 (ix1 l)))) (FloatOps.addf (FloatOps.addf (v1195 (ix1 l)) (v1200 (ix1 l))) (FloatOps.addf (v1205 (ix1 l)) (v1210 (ix1 l))))) (FloatOps.addf (FloatOps.addf (FloatOps.addf (v1215 (ix1 l)) (v1220 (ix1 l))) (FloatOps.addf (v1225 (ix1 l)) (v1230 (ix1 l)))) (FloatOps.addf (FloatOps.addf (v1235 (ix1 l)) (v1240 (ix1 l))) (FloatOps.addf (v1245 (ix1 l)) (v1250 (ix1 l)))))) := by
  unfold k3_pay197
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k3_pay197_tree (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (w : Fin 32 → F .f32) (l : Fin 16)
    (h_v1251 : v1251 (ix1 l) = FloatOps.addf (w 0) (w 1))
    (h_v1252 : v1252 (ix1 l) = FloatOps.addf (w 2) (w 3))
    (h_v1253 : v1253 (ix1 l) = FloatOps.addf (w 4) (w 5))
    (h_v1254 : v1254 (ix1 l) = FloatOps.addf (w 6) (w 7))
    (h_v1255 : v1255 (ix1 l) = FloatOps.addf (w 8) (w 9))
    (h_v1256 : v1256 (ix1 l) = FloatOps.addf (w 10) (w 11))
    (h_v1155 : v1155 (ix1 l) = w 12)
    (h_v1160 : v1160 (ix1 l) = w 13)
    (h_v1165 : v1165 (ix1 l) = w 14)
    (h_v1170 : v1170 (ix1 l) = w 15)
    (h_v1175 : v1175 (ix1 l) = w 16)
    (h_v1180 : v1180 (ix1 l) = w 17)
    (h_v1185 : v1185 (ix1 l) = w 18)
    (h_v1190 : v1190 (ix1 l) = w 19)
    (h_v1195 : v1195 (ix1 l) = w 20)
    (h_v1200 : v1200 (ix1 l) = w 21)
    (h_v1205 : v1205 (ix1 l) = w 22)
    (h_v1210 : v1210 (ix1 l) = w 23)
    (h_v1215 : v1215 (ix1 l) = w 24)
    (h_v1220 : v1220 (ix1 l) = w 25)
    (h_v1225 : v1225 (ix1 l) = w 26)
    (h_v1230 : v1230 (ix1 l) = w 27)
    (h_v1235 : v1235 (ix1 l) = w 28)
    (h_v1240 : v1240 (ix1 l) = w 29)
    (h_v1245 : v1245 (ix1 l) = w 30)
    (h_v1250 : v1250 (ix1 l) = w 31) :
    k3_pay197 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = tree32 w := by
  unfold k3_pay197
  refine (cast_116 _ l).trans ?_
  exact congrArg₂ FloatOps.addf (congrArg₂ FloatOps.addf (congrArg₂ FloatOps.addf (congrArg₂ FloatOps.addf (h_v1251) (h_v1252)) (congrArg₂ FloatOps.addf (h_v1253) (h_v1254))) (congrArg₂ FloatOps.addf (congrArg₂ FloatOps.addf (h_v1255) (h_v1256)) (congrArg₂ FloatOps.addf (congrArg₂ FloatOps.addf (h_v1155) (h_v1160)) (congrArg₂ FloatOps.addf (h_v1165) (h_v1170))))) (congrArg₂ FloatOps.addf (congrArg₂ FloatOps.addf (congrArg₂ FloatOps.addf (congrArg₂ FloatOps.addf (h_v1175) (h_v1180)) (congrArg₂ FloatOps.addf (h_v1185) (h_v1190))) (congrArg₂ FloatOps.addf (congrArg₂ FloatOps.addf (h_v1195) (h_v1200)) (congrArg₂ FloatOps.addf (h_v1205) (h_v1210)))) (congrArg₂ FloatOps.addf (congrArg₂ FloatOps.addf (congrArg₂ FloatOps.addf (h_v1215) (h_v1220)) (congrArg₂ FloatOps.addf (h_v1225) (h_v1230))) (congrArg₂ FloatOps.addf (congrArg₂ FloatOps.addf (h_v1235) (h_v1240)) (congrArg₂ FloatOps.addf (h_v1245) (h_v1250)))))

theorem k3_pay198_lane (v1290 : Vec F S1x1x16 .f32) (l : Fin 16) :
    k3_pay198 v1290 (ix1 l) = v1290 (ix3 (0 : Fin 1) (0 : Fin 1) l) := by
  unfold k3_pay198
  exact cast_16 v1290 l

theorem k3_pay199_lane (v1295 : Vec F S1x1x16 .f32) (l : Fin 16) :
    k3_pay199 v1295 (ix1 l) = v1295 (ix3 (0 : Fin 1) (0 : Fin 1) l) := by
  unfold k3_pay199
  exact cast_16 v1295 l

theorem k3_pay200_lane (v1300 : Vec F S1x1x16 .f32) (l : Fin 16) :
    k3_pay200 v1300 (ix1 l) = v1300 (ix3 (0 : Fin 1) (0 : Fin 1) l) := by
  unfold k3_pay200
  exact cast_16 v1300 l

theorem k3_pay201_lane (v1305 : Vec F S1x1x16 .f32) (l : Fin 16) :
    k3_pay201 v1305 (ix1 l) = v1305 (ix3 (0 : Fin 1) (0 : Fin 1) l) := by
  unfold k3_pay201
  exact cast_16 v1305 l

theorem k3_pay202_lane (v1310 : Vec F S1x1x16 .f32) (l : Fin 16) :
    k3_pay202 v1310 (ix1 l) = v1310 (ix3 (0 : Fin 1) (0 : Fin 1) l) := by
  unfold k3_pay202
  exact cast_16 v1310 l

theorem k3_pay203_lane (v1315 : Vec F S1x1x16 .f32) (l : Fin 16) :
    k3_pay203 v1315 (ix1 l) = v1315 (ix3 (0 : Fin 1) (0 : Fin 1) l) := by
  unfold k3_pay203
  exact cast_16 v1315 l

theorem k3_pay204_lane (v1320 : Vec F S1x1x16 .f32) (l : Fin 16) :
    k3_pay204 v1320 (ix1 l) = v1320 (ix3 (0 : Fin 1) (0 : Fin 1) l) := by
  unfold k3_pay204
  exact cast_16 v1320 l

theorem k3_pay205_lane (v1325 : Vec F S1x1x16 .f32) (l : Fin 16) :
    k3_pay205 v1325 (ix1 l) = v1325 (ix3 (0 : Fin 1) (0 : Fin 1) l) := by
  unfold k3_pay205
  exact cast_16 v1325 l

theorem k3_pay206_lane (v1330 : Vec F S1x1x16 .f32) (l : Fin 16) :
    k3_pay206 v1330 (ix1 l) = v1330 (ix3 (0 : Fin 1) (0 : Fin 1) l) := by
  unfold k3_pay206
  exact cast_16 v1330 l

theorem k3_pay207_lane (v1335 : Vec F S1x1x16 .f32) (l : Fin 16) :
    k3_pay207 v1335 (ix1 l) = v1335 (ix3 (0 : Fin 1) (0 : Fin 1) l) := by
  unfold k3_pay207
  exact cast_16 v1335 l

theorem k3_pay208_lane (v1340 : Vec F S1x1x16 .f32) (l : Fin 16) :
    k3_pay208 v1340 (ix1 l) = v1340 (ix3 (0 : Fin 1) (0 : Fin 1) l) := by
  unfold k3_pay208
  exact cast_16 v1340 l

theorem k3_pay209_lane (v1345 : Vec F S1x1x16 .f32) (l : Fin 16) :
    k3_pay209 v1345 (ix1 l) = v1345 (ix3 (0 : Fin 1) (0 : Fin 1) l) := by
  unfold k3_pay209
  exact cast_16 v1345 l

theorem k3_pay210_lane (v1350 : Vec F S1x1x16 .f32) (l : Fin 16) :
    k3_pay210 v1350 (ix1 l) = v1350 (ix3 (0 : Fin 1) (0 : Fin 1) l) := by
  unfold k3_pay210
  exact cast_16 v1350 l

theorem k3_pay211_lane (v1355 : Vec F S1x1x16 .f32) (l : Fin 16) :
    k3_pay211 v1355 (ix1 l) = v1355 (ix3 (0 : Fin 1) (0 : Fin 1) l) := by
  unfold k3_pay211
  exact cast_16 v1355 l

theorem k3_pay212_lane (v1360 : Vec F S1x1x16 .f32) (l : Fin 16) :
    k3_pay212 v1360 (ix1 l) = v1360 (ix3 (0 : Fin 1) (0 : Fin 1) l) := by
  unfold k3_pay212
  exact cast_16 v1360 l

theorem k3_pay213_lane (v1365 : Vec F S1x1x16 .f32) (l : Fin 16) :
    k3_pay213 v1365 (ix1 l) = v1365 (ix3 (0 : Fin 1) (0 : Fin 1) l) := by
  unfold k3_pay213
  exact cast_16 v1365 l

theorem k3_pay214_lane (v1370 : Vec F S1x1x16 .f32) (l : Fin 16) :
    k3_pay214 v1370 (ix1 l) = v1370 (ix3 (0 : Fin 1) (0 : Fin 1) l) := by
  unfold k3_pay214
  exact cast_16 v1370 l

theorem k3_pay215_lane (v1375 : Vec F S1x1x16 .f32) (l : Fin 16) :
    k3_pay215 v1375 (ix1 l) = v1375 (ix3 (0 : Fin 1) (0 : Fin 1) l) := by
  unfold k3_pay215
  exact cast_16 v1375 l

theorem k3_pay216_lane (v1380 : Vec F S1x1x16 .f32) (l : Fin 16) :
    k3_pay216 v1380 (ix1 l) = v1380 (ix3 (0 : Fin 1) (0 : Fin 1) l) := by
  unfold k3_pay216
  exact cast_16 v1380 l

theorem k3_pay217_lane (v1385 : Vec F S1x1x16 .f32) (l : Fin 16) :
    k3_pay217 v1385 (ix1 l) = v1385 (ix3 (0 : Fin 1) (0 : Fin 1) l) := by
  unfold k3_pay217
  exact cast_16 v1385 l

theorem k3_pay218_lane (v1390 : Vec F S1x1x16 .f32) (l : Fin 16) :
    k3_pay218 v1390 (ix1 l) = v1390 (ix3 (0 : Fin 1) (0 : Fin 1) l) := by
  unfold k3_pay218
  exact cast_16 v1390 l

theorem k3_pay219_lane (v1395 : Vec F S1x1x16 .f32) (l : Fin 16) :
    k3_pay219 v1395 (ix1 l) = v1395 (ix3 (0 : Fin 1) (0 : Fin 1) l) := by
  unfold k3_pay219
  exact cast_16 v1395 l

theorem k3_pay220_lane (v1400 : Vec F S1x1x16 .f32) (l : Fin 16) :
    k3_pay220 v1400 (ix1 l) = v1400 (ix3 (0 : Fin 1) (0 : Fin 1) l) := by
  unfold k3_pay220
  exact cast_16 v1400 l

theorem k3_pay221_lane (v1405 : Vec F S1x1x16 .f32) (l : Fin 16) :
    k3_pay221 v1405 (ix1 l) = v1405 (ix3 (0 : Fin 1) (0 : Fin 1) l) := by
  unfold k3_pay221
  exact cast_16 v1405 l

theorem k3_pay222_lane (v1410 : Vec F S1x1x16 .f32) (l : Fin 16) :
    k3_pay222 v1410 (ix1 l) = v1410 (ix3 (0 : Fin 1) (0 : Fin 1) l) := by
  unfold k3_pay222
  exact cast_16 v1410 l

theorem k3_pay223_lane (v1415 : Vec F S1x1x16 .f32) (l : Fin 16) :
    k3_pay223 v1415 (ix1 l) = v1415 (ix3 (0 : Fin 1) (0 : Fin 1) l) := by
  unfold k3_pay223
  exact cast_16 v1415 l

theorem k3_pay224_lane (v1420 : Vec F S1x1x16 .f32) (l : Fin 16) :
    k3_pay224 v1420 (ix1 l) = v1420 (ix3 (0 : Fin 1) (0 : Fin 1) l) := by
  unfold k3_pay224
  exact cast_16 v1420 l

theorem k3_pay225_lane (v1425 : Vec F S1x1x16 .f32) (l : Fin 16) :
    k3_pay225 v1425 (ix1 l) = v1425 (ix3 (0 : Fin 1) (0 : Fin 1) l) := by
  unfold k3_pay225
  exact cast_16 v1425 l

theorem k3_pay226_lane (v1430 : Vec F S1x1x16 .f32) (l : Fin 16) :
    k3_pay226 v1430 (ix1 l) = v1430 (ix3 (0 : Fin 1) (0 : Fin 1) l) := by
  unfold k3_pay226
  exact cast_16 v1430 l

theorem k3_pay227_lane (v1435 : Vec F S1x1x16 .f32) (l : Fin 16) :
    k3_pay227 v1435 (ix1 l) = v1435 (ix3 (0 : Fin 1) (0 : Fin 1) l) := by
  unfold k3_pay227
  exact cast_16 v1435 l

theorem k3_pay228_lane (v1440 : Vec F S1x1x16 .f32) (l : Fin 16) :
    k3_pay228 v1440 (ix1 l) = v1440 (ix3 (0 : Fin 1) (0 : Fin 1) l) := by
  unfold k3_pay228
  exact cast_16 v1440 l

theorem k3_pay229_lane (v1445 : Vec F S1x1x16 .f32) (l : Fin 16) :
    k3_pay229 v1445 (ix1 l) = v1445 (ix3 (0 : Fin 1) (0 : Fin 1) l) := by
  unfold k3_pay229
  exact cast_16 v1445 l

theorem k3_pay230_lane (v1291 : FVec F S16 .f32) (v1296 : FVec F S16 .f32) (l : Fin 16) :
    k3_pay230 v1291 v1296 (ix1 l) = FloatOps.addf (v1291 (ix1 l)) (v1296 (ix1 l)) := by
  unfold k3_pay230
  exact congrArg₂ FloatOps.addf (rfl) (rfl)

theorem k3_pay231_lane (v1301 : FVec F S16 .f32) (v1306 : FVec F S16 .f32) (l : Fin 16) :
    k3_pay231 v1301 v1306 (ix1 l) = FloatOps.addf (v1301 (ix1 l)) (v1306 (ix1 l)) := by
  unfold k3_pay231
  exact congrArg₂ FloatOps.addf (rfl) (rfl)

theorem k3_pay232_lane (v1311 : FVec F S16 .f32) (v1316 : FVec F S16 .f32) (l : Fin 16) :
    k3_pay232 v1311 v1316 (ix1 l) = FloatOps.addf (v1311 (ix1 l)) (v1316 (ix1 l)) := by
  unfold k3_pay232
  exact congrArg₂ FloatOps.addf (rfl) (rfl)

theorem k3_pay233_lane (v1321 : FVec F S16 .f32) (v1326 : FVec F S16 .f32) (l : Fin 16) :
    k3_pay233 v1321 v1326 (ix1 l) = FloatOps.addf (v1321 (ix1 l)) (v1326 (ix1 l)) := by
  unfold k3_pay233
  exact congrArg₂ FloatOps.addf (rfl) (rfl)

theorem k3_pay234_lane (v1331 : FVec F S16 .f32) (v1336 : FVec F S16 .f32) (l : Fin 16) :
    k3_pay234 v1331 v1336 (ix1 l) = FloatOps.addf (v1331 (ix1 l)) (v1336 (ix1 l)) := by
  unfold k3_pay234
  exact congrArg₂ FloatOps.addf (rfl) (rfl)

theorem k3_pay235_lane (v1341 : FVec F S16 .f32) (v1346 : FVec F S16 .f32) (l : Fin 16) :
    k3_pay235 v1341 v1346 (ix1 l) = FloatOps.addf (v1341 (ix1 l)) (v1346 (ix1 l)) := by
  unfold k3_pay235
  exact congrArg₂ FloatOps.addf (rfl) (rfl)

theorem k3_pay236_lane (v1351 : FVec F S16 .f32) (v1356 : FVec F S16 .f32) (l : Fin 16) :
    k3_pay236 v1351 v1356 (ix1 l) = FloatOps.addf (v1351 (ix1 l)) (v1356 (ix1 l)) := by
  unfold k3_pay236
  exact congrArg₂ FloatOps.addf (rfl) (rfl)

theorem k3_pay237_lane (v1361 : FVec F S16 .f32) (v1366 : FVec F S16 .f32) (l : Fin 16) :
    k3_pay237 v1361 v1366 (ix1 l) = FloatOps.addf (v1361 (ix1 l)) (v1366 (ix1 l)) := by
  unfold k3_pay237
  exact congrArg₂ FloatOps.addf (rfl) (rfl)

theorem k3_pay238_lane (v1371 : FVec F S16 .f32) (v1376 : FVec F S16 .f32) (l : Fin 16) :
    k3_pay238 v1371 v1376 (ix1 l) = FloatOps.addf (v1371 (ix1 l)) (v1376 (ix1 l)) := by
  unfold k3_pay238
  exact congrArg₂ FloatOps.addf (rfl) (rfl)

theorem k3_pay239_lane (v1381 : FVec F S16 .f32) (v1386 : FVec F S16 .f32) (l : Fin 16) :
    k3_pay239 v1381 v1386 (ix1 l) = FloatOps.addf (v1381 (ix1 l)) (v1386 (ix1 l)) := by
  unfold k3_pay239
  exact congrArg₂ FloatOps.addf (rfl) (rfl)

theorem k3_pay240_lane (v1391 : FVec F S16 .f32) (v1396 : FVec F S16 .f32) (l : Fin 16) :
    k3_pay240 v1391 v1396 (ix1 l) = FloatOps.addf (v1391 (ix1 l)) (v1396 (ix1 l)) := by
  unfold k3_pay240
  exact congrArg₂ FloatOps.addf (rfl) (rfl)

theorem k3_pay241_lane (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (l : Fin 16) :
    k3_pay241 v1401 v1406 v1411 v1416 v1421 v1426 v1431 v1436 v1441 v1446 v1447 v1448 v1449 v1450 v1451 v1452 v1453 v1454 v1455 v1456 v1457 (ix3 (0 : Fin 1) (0 : Fin 1) l) = FloatOps.addf (FloatOps.addf (FloatOps.addf (FloatOps.addf (v1447 (ix1 l)) (v1448 (ix1 l))) (FloatOps.addf (v1449 (ix1 l)) (v1450 (ix1 l)))) (FloatOps.addf (FloatOps.addf (v1451 (ix1 l)) (v1452 (ix1 l))) (FloatOps.addf (v1453 (ix1 l)) (v1454 (ix1 l))))) (FloatOps.addf (FloatOps.addf (FloatOps.addf (v1455 (ix1 l)) (v1456 (ix1 l))) (FloatOps.addf (v1457 (ix1 l)) (FloatOps.addf (v1401 (ix1 l)) (v1406 (ix1 l))))) (FloatOps.addf (FloatOps.addf (FloatOps.addf (v1411 (ix1 l)) (v1416 (ix1 l))) (FloatOps.addf (v1421 (ix1 l)) (v1426 (ix1 l)))) (FloatOps.addf (FloatOps.addf (v1431 (ix1 l)) (v1436 (ix1 l))) (FloatOps.addf (v1441 (ix1 l)) (v1446 (ix1 l)))))) := by
  unfold k3_pay241
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k3_pay241_tree (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (w : Fin 32 → F .f32) (l : Fin 16)
    (h_v1447 : v1447 (ix1 l) = FloatOps.addf (w 0) (w 1))
    (h_v1448 : v1448 (ix1 l) = FloatOps.addf (w 2) (w 3))
    (h_v1449 : v1449 (ix1 l) = FloatOps.addf (w 4) (w 5))
    (h_v1450 : v1450 (ix1 l) = FloatOps.addf (w 6) (w 7))
    (h_v1451 : v1451 (ix1 l) = FloatOps.addf (w 8) (w 9))
    (h_v1452 : v1452 (ix1 l) = FloatOps.addf (w 10) (w 11))
    (h_v1453 : v1453 (ix1 l) = FloatOps.addf (w 12) (w 13))
    (h_v1454 : v1454 (ix1 l) = FloatOps.addf (w 14) (w 15))
    (h_v1455 : v1455 (ix1 l) = FloatOps.addf (w 16) (w 17))
    (h_v1456 : v1456 (ix1 l) = FloatOps.addf (w 18) (w 19))
    (h_v1457 : v1457 (ix1 l) = FloatOps.addf (w 20) (w 21))
    (h_v1401 : v1401 (ix1 l) = w 22)
    (h_v1406 : v1406 (ix1 l) = w 23)
    (h_v1411 : v1411 (ix1 l) = w 24)
    (h_v1416 : v1416 (ix1 l) = w 25)
    (h_v1421 : v1421 (ix1 l) = w 26)
    (h_v1426 : v1426 (ix1 l) = w 27)
    (h_v1431 : v1431 (ix1 l) = w 28)
    (h_v1436 : v1436 (ix1 l) = w 29)
    (h_v1441 : v1441 (ix1 l) = w 30)
    (h_v1446 : v1446 (ix1 l) = w 31) :
    k3_pay241 v1401 v1406 v1411 v1416 v1421 v1426 v1431 v1436 v1441 v1446 v1447 v1448 v1449 v1450 v1451 v1452 v1453 v1454 v1455 v1456 v1457 (ix3 (0 : Fin 1) (0 : Fin 1) l) = tree32 w := by
  unfold k3_pay241
  refine (cast_116 _ l).trans ?_
  exact congrArg₂ FloatOps.addf (congrArg₂ FloatOps.addf (congrArg₂ FloatOps.addf (congrArg₂ FloatOps.addf (h_v1447) (h_v1448)) (congrArg₂ FloatOps.addf (h_v1449) (h_v1450))) (congrArg₂ FloatOps.addf (congrArg₂ FloatOps.addf (h_v1451) (h_v1452)) (congrArg₂ FloatOps.addf (h_v1453) (h_v1454)))) (congrArg₂ FloatOps.addf (congrArg₂ FloatOps.addf (congrArg₂ FloatOps.addf (h_v1455) (h_v1456)) (congrArg₂ FloatOps.addf (h_v1457) (congrArg₂ FloatOps.addf (h_v1401) (h_v1406)))) (congrArg₂ FloatOps.addf (congrArg₂ FloatOps.addf (congrArg₂ FloatOps.addf (h_v1411) (h_v1416)) (congrArg₂ FloatOps.addf (h_v1421) (h_v1426))) (congrArg₂ FloatOps.addf (congrArg₂ FloatOps.addf (h_v1431) (h_v1436)) (congrArg₂ FloatOps.addf (h_v1441) (h_v1446)))))

theorem k3_pay242_lane (v1486 : Vec F S1x1x16 .f32) (l : Fin 16) :
    k3_pay242 v1486 (ix1 l) = v1486 (ix3 (0 : Fin 1) (0 : Fin 1) l) := by
  unfold k3_pay242
  exact cast_16 v1486 l

theorem k3_pay243_lane (v1491 : Vec F S1x1x16 .f32) (l : Fin 16) :
    k3_pay243 v1491 (ix1 l) = v1491 (ix3 (0 : Fin 1) (0 : Fin 1) l) := by
  unfold k3_pay243
  exact cast_16 v1491 l

theorem k3_pay244_lane (v1496 : Vec F S1x1x16 .f32) (l : Fin 16) :
    k3_pay244 v1496 (ix1 l) = v1496 (ix3 (0 : Fin 1) (0 : Fin 1) l) := by
  unfold k3_pay244
  exact cast_16 v1496 l

theorem k3_pay245_lane (v1501 : Vec F S1x1x16 .f32) (l : Fin 16) :
    k3_pay245 v1501 (ix1 l) = v1501 (ix3 (0 : Fin 1) (0 : Fin 1) l) := by
  unfold k3_pay245
  exact cast_16 v1501 l

theorem k3_pay246_lane (v1506 : Vec F S1x1x16 .f32) (l : Fin 16) :
    k3_pay246 v1506 (ix1 l) = v1506 (ix3 (0 : Fin 1) (0 : Fin 1) l) := by
  unfold k3_pay246
  exact cast_16 v1506 l

theorem k3_pay247_lane (v1511 : Vec F S1x1x16 .f32) (l : Fin 16) :
    k3_pay247 v1511 (ix1 l) = v1511 (ix3 (0 : Fin 1) (0 : Fin 1) l) := by
  unfold k3_pay247
  exact cast_16 v1511 l

theorem k3_pay248_lane (v1516 : Vec F S1x1x16 .f32) (l : Fin 16) :
    k3_pay248 v1516 (ix1 l) = v1516 (ix3 (0 : Fin 1) (0 : Fin 1) l) := by
  unfold k3_pay248
  exact cast_16 v1516 l

theorem k3_pay249_lane (v1521 : Vec F S1x1x16 .f32) (l : Fin 16) :
    k3_pay249 v1521 (ix1 l) = v1521 (ix3 (0 : Fin 1) (0 : Fin 1) l) := by
  unfold k3_pay249
  exact cast_16 v1521 l

theorem k3_pay250_lane (v1526 : Vec F S1x1x16 .f32) (l : Fin 16) :
    k3_pay250 v1526 (ix1 l) = v1526 (ix3 (0 : Fin 1) (0 : Fin 1) l) := by
  unfold k3_pay250
  exact cast_16 v1526 l

theorem k3_pay251_lane (v1531 : Vec F S1x1x16 .f32) (l : Fin 16) :
    k3_pay251 v1531 (ix1 l) = v1531 (ix3 (0 : Fin 1) (0 : Fin 1) l) := by
  unfold k3_pay251
  exact cast_16 v1531 l

theorem k3_pay252_lane (v1536 : Vec F S1x1x16 .f32) (l : Fin 16) :
    k3_pay252 v1536 (ix1 l) = v1536 (ix3 (0 : Fin 1) (0 : Fin 1) l) := by
  unfold k3_pay252
  exact cast_16 v1536 l

theorem k3_pay253_lane (v1541 : Vec F S1x1x16 .f32) (l : Fin 16) :
    k3_pay253 v1541 (ix1 l) = v1541 (ix3 (0 : Fin 1) (0 : Fin 1) l) := by
  unfold k3_pay253
  exact cast_16 v1541 l

theorem k3_pay254_lane (v1546 : Vec F S1x1x16 .f32) (l : Fin 16) :
    k3_pay254 v1546 (ix1 l) = v1546 (ix3 (0 : Fin 1) (0 : Fin 1) l) := by
  unfold k3_pay254
  exact cast_16 v1546 l

theorem k3_pay255_lane (v1551 : Vec F S1x1x16 .f32) (l : Fin 16) :
    k3_pay255 v1551 (ix1 l) = v1551 (ix3 (0 : Fin 1) (0 : Fin 1) l) := by
  unfold k3_pay255
  exact cast_16 v1551 l

theorem k3_pay256_lane (v1556 : Vec F S1x1x16 .f32) (l : Fin 16) :
    k3_pay256 v1556 (ix1 l) = v1556 (ix3 (0 : Fin 1) (0 : Fin 1) l) := by
  unfold k3_pay256
  exact cast_16 v1556 l

theorem k3_pay257_lane (v1561 : Vec F S1x1x16 .f32) (l : Fin 16) :
    k3_pay257 v1561 (ix1 l) = v1561 (ix3 (0 : Fin 1) (0 : Fin 1) l) := by
  unfold k3_pay257
  exact cast_16 v1561 l

theorem k3_pay258_lane (v1566 : Vec F S1x1x16 .f32) (l : Fin 16) :
    k3_pay258 v1566 (ix1 l) = v1566 (ix3 (0 : Fin 1) (0 : Fin 1) l) := by
  unfold k3_pay258
  exact cast_16 v1566 l

theorem k3_pay259_lane (v1571 : Vec F S1x1x16 .f32) (l : Fin 16) :
    k3_pay259 v1571 (ix1 l) = v1571 (ix3 (0 : Fin 1) (0 : Fin 1) l) := by
  unfold k3_pay259
  exact cast_16 v1571 l

theorem k3_pay260_lane (v1576 : Vec F S1x1x16 .f32) (l : Fin 16) :
    k3_pay260 v1576 (ix1 l) = v1576 (ix3 (0 : Fin 1) (0 : Fin 1) l) := by
  unfold k3_pay260
  exact cast_16 v1576 l

theorem k3_pay261_lane (v1581 : Vec F S1x1x16 .f32) (l : Fin 16) :
    k3_pay261 v1581 (ix1 l) = v1581 (ix3 (0 : Fin 1) (0 : Fin 1) l) := by
  unfold k3_pay261
  exact cast_16 v1581 l

theorem k3_pay262_lane (v1586 : Vec F S1x1x16 .f32) (l : Fin 16) :
    k3_pay262 v1586 (ix1 l) = v1586 (ix3 (0 : Fin 1) (0 : Fin 1) l) := by
  unfold k3_pay262
  exact cast_16 v1586 l

theorem k3_pay263_lane (v1591 : Vec F S1x1x16 .f32) (l : Fin 16) :
    k3_pay263 v1591 (ix1 l) = v1591 (ix3 (0 : Fin 1) (0 : Fin 1) l) := by
  unfold k3_pay263
  exact cast_16 v1591 l

theorem k3_pay264_lane (v1596 : Vec F S1x1x16 .f32) (l : Fin 16) :
    k3_pay264 v1596 (ix1 l) = v1596 (ix3 (0 : Fin 1) (0 : Fin 1) l) := by
  unfold k3_pay264
  exact cast_16 v1596 l

theorem k3_pay265_lane (v1601 : Vec F S1x1x16 .f32) (l : Fin 16) :
    k3_pay265 v1601 (ix1 l) = v1601 (ix3 (0 : Fin 1) (0 : Fin 1) l) := by
  unfold k3_pay265
  exact cast_16 v1601 l

theorem k3_pay266_lane (v1606 : Vec F S1x1x16 .f32) (l : Fin 16) :
    k3_pay266 v1606 (ix1 l) = v1606 (ix3 (0 : Fin 1) (0 : Fin 1) l) := by
  unfold k3_pay266
  exact cast_16 v1606 l

theorem k3_pay267_lane (v1611 : Vec F S1x1x16 .f32) (l : Fin 16) :
    k3_pay267 v1611 (ix1 l) = v1611 (ix3 (0 : Fin 1) (0 : Fin 1) l) := by
  unfold k3_pay267
  exact cast_16 v1611 l

theorem k3_pay268_lane (v1487 : FVec F S16 .f32) (v1492 : FVec F S16 .f32) (l : Fin 16) :
    k3_pay268 v1487 v1492 (ix1 l) = FloatOps.addf (v1487 (ix1 l)) (v1492 (ix1 l)) := by
  unfold k3_pay268
  exact congrArg₂ FloatOps.addf (rfl) (rfl)

theorem k3_pay269_lane (v1497 : FVec F S16 .f32) (v1502 : FVec F S16 .f32) (l : Fin 16) :
    k3_pay269 v1497 v1502 (ix1 l) = FloatOps.addf (v1497 (ix1 l)) (v1502 (ix1 l)) := by
  unfold k3_pay269
  exact congrArg₂ FloatOps.addf (rfl) (rfl)

theorem k3_pay270_lane (v1507 : FVec F S16 .f32) (v1512 : FVec F S16 .f32) (l : Fin 16) :
    k3_pay270 v1507 v1512 (ix1 l) = FloatOps.addf (v1507 (ix1 l)) (v1512 (ix1 l)) := by
  unfold k3_pay270
  exact congrArg₂ FloatOps.addf (rfl) (rfl)

theorem k3_pay271_lane (v1517 : FVec F S16 .f32) (v1522 : FVec F S16 .f32) (l : Fin 16) :
    k3_pay271 v1517 v1522 (ix1 l) = FloatOps.addf (v1517 (ix1 l)) (v1522 (ix1 l)) := by
  unfold k3_pay271
  exact congrArg₂ FloatOps.addf (rfl) (rfl)

theorem k3_pay272_lane (v1527 : FVec F S16 .f32) (v1532 : FVec F S16 .f32) (l : Fin 16) :
    k3_pay272 v1527 v1532 (ix1 l) = FloatOps.addf (v1527 (ix1 l)) (v1532 (ix1 l)) := by
  unfold k3_pay272
  exact congrArg₂ FloatOps.addf (rfl) (rfl)

theorem k3_pay273_lane (v1537 : FVec F S16 .f32) (v1542 : FVec F S16 .f32) (l : Fin 16) :
    k3_pay273 v1537 v1542 (ix1 l) = FloatOps.addf (v1537 (ix1 l)) (v1542 (ix1 l)) := by
  unfold k3_pay273
  exact congrArg₂ FloatOps.addf (rfl) (rfl)

theorem k3_pay274_lane (v1547 : FVec F S16 .f32) (v1552 : FVec F S16 .f32) (l : Fin 16) :
    k3_pay274 v1547 v1552 (ix1 l) = FloatOps.addf (v1547 (ix1 l)) (v1552 (ix1 l)) := by
  unfold k3_pay274
  exact congrArg₂ FloatOps.addf (rfl) (rfl)

theorem k3_pay275_lane (v1557 : FVec F S16 .f32) (v1562 : FVec F S16 .f32) (l : Fin 16) :
    k3_pay275 v1557 v1562 (ix1 l) = FloatOps.addf (v1557 (ix1 l)) (v1562 (ix1 l)) := by
  unfold k3_pay275
  exact congrArg₂ FloatOps.addf (rfl) (rfl)

theorem k3_pay276_lane (v1567 : FVec F S16 .f32) (v1572 : FVec F S16 .f32) (l : Fin 16) :
    k3_pay276 v1567 v1572 (ix1 l) = FloatOps.addf (v1567 (ix1 l)) (v1572 (ix1 l)) := by
  unfold k3_pay276
  exact congrArg₂ FloatOps.addf (rfl) (rfl)

theorem k3_pay277_lane (v1577 : FVec F S16 .f32) (v1582 : FVec F S16 .f32) (l : Fin 16) :
    k3_pay277 v1577 v1582 (ix1 l) = FloatOps.addf (v1577 (ix1 l)) (v1582 (ix1 l)) := by
  unfold k3_pay277
  exact congrArg₂ FloatOps.addf (rfl) (rfl)

theorem k3_pay278_lane (v1587 : FVec F S16 .f32) (v1592 : FVec F S16 .f32) (l : Fin 16) :
    k3_pay278 v1587 v1592 (ix1 l) = FloatOps.addf (v1587 (ix1 l)) (v1592 (ix1 l)) := by
  unfold k3_pay278
  exact congrArg₂ FloatOps.addf (rfl) (rfl)

theorem k3_pay279_lane (v1597 : FVec F S16 .f32) (v1602 : FVec F S16 .f32) (l : Fin 16) :
    k3_pay279 v1597 v1602 (ix1 l) = FloatOps.addf (v1597 (ix1 l)) (v1602 (ix1 l)) := by
  unfold k3_pay279
  exact congrArg₂ FloatOps.addf (rfl) (rfl)

theorem k3_pay280_lane (v1607 : FVec F S16 .f32) (v1612 : FVec F S16 .f32) (l : Fin 16) :
    k3_pay280 v1607 v1612 (ix1 l) = FloatOps.addf (v1607 (ix1 l)) (v1612 (ix1 l)) := by
  unfold k3_pay280
  exact congrArg₂ FloatOps.addf (rfl) (rfl)

theorem k3_pay281_lane (v1616 : Vec F S1x1x16 .f32) (v1621 : Vec F S1x1x16 .f32) (l : Fin 16) :
    k3_pay281 v1616 v1621 (ix1 l) = FloatOps.addf (v1616 (ix3 (0 : Fin 1) (0 : Fin 1) l)) (v1621 (ix3 (0 : Fin 1) (0 : Fin 1) l)) := by
  unfold k3_pay281
  exact congrArg₂ FloatOps.addf (cast_16 v1616 l) (cast_16 v1621 l)

theorem k3_pay282_lane (v1626 : Vec F S1x1x16 .f32) (v1631 : Vec F S1x1x16 .f32) (l : Fin 16) :
    k3_pay282 v1626 v1631 (ix1 l) = FloatOps.addf (v1626 (ix3 (0 : Fin 1) (0 : Fin 1) l)) (v1631 (ix3 (0 : Fin 1) (0 : Fin 1) l)) := by
  unfold k3_pay282
  exact congrArg₂ FloatOps.addf (cast_16 v1626 l) (cast_16 v1631 l)

theorem k3_pay283_lane (v1636 : Vec F S1x1x16 .f32) (v1641 : Vec F S1x1x16 .f32) (l : Fin 16) :
    k3_pay283 v1636 v1641 (ix1 l) = FloatOps.addf (v1636 (ix3 (0 : Fin 1) (0 : Fin 1) l)) (v1641 (ix3 (0 : Fin 1) (0 : Fin 1) l)) := by
  unfold k3_pay283
  exact congrArg₂ FloatOps.addf (cast_16 v1636 l) (cast_16 v1641 l)

theorem k3_pay284_lane (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (l : Fin 16) :
    k3_pay284 v1643 v1644 v1645 v1646 v1647 v1648 v1649 v1650 v1651 v1652 v1653 v1654 v1655 v1656 v1657 v1658 (ix1 l) = FloatOps.addf (FloatOps.addf (FloatOps.addf (FloatOps.addf (v1643 (ix1 l)) (v1644 (ix1 l))) (FloatOps.addf (v1645 (ix1 l)) (v1646 (ix1 l)))) (FloatOps.addf (FloatOps.addf (v1647 (ix1 l)) (v1648 (ix1 l))) (FloatOps.addf (v1649 (ix1 l)) (v1650 (ix1 l))))) (FloatOps.addf (FloatOps.addf (FloatOps.addf (v1651 (ix1 l)) (v1652 (ix1 l))) (FloatOps.addf (v1653 (ix1 l)) (v1654 (ix1 l)))) (FloatOps.addf (FloatOps.addf (v1655 (ix1 l)) (v1656 (ix1 l))) (FloatOps.addf (v1657 (ix1 l)) (v1658 (ix1 l))))) := by
  unfold k3_pay284
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))

theorem k3_pay284_tree (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (w : Fin 32 → F .f32) (l : Fin 16)
    (h_v1643 : v1643 (ix1 l) = FloatOps.addf (w 0) (w 1))
    (h_v1644 : v1644 (ix1 l) = FloatOps.addf (w 2) (w 3))
    (h_v1645 : v1645 (ix1 l) = FloatOps.addf (w 4) (w 5))
    (h_v1646 : v1646 (ix1 l) = FloatOps.addf (w 6) (w 7))
    (h_v1647 : v1647 (ix1 l) = FloatOps.addf (w 8) (w 9))
    (h_v1648 : v1648 (ix1 l) = FloatOps.addf (w 10) (w 11))
    (h_v1649 : v1649 (ix1 l) = FloatOps.addf (w 12) (w 13))
    (h_v1650 : v1650 (ix1 l) = FloatOps.addf (w 14) (w 15))
    (h_v1651 : v1651 (ix1 l) = FloatOps.addf (w 16) (w 17))
    (h_v1652 : v1652 (ix1 l) = FloatOps.addf (w 18) (w 19))
    (h_v1653 : v1653 (ix1 l) = FloatOps.addf (w 20) (w 21))
    (h_v1654 : v1654 (ix1 l) = FloatOps.addf (w 22) (w 23))
    (h_v1655 : v1655 (ix1 l) = FloatOps.addf (w 24) (w 25))
    (h_v1656 : v1656 (ix1 l) = FloatOps.addf (w 26) (w 27))
    (h_v1657 : v1657 (ix1 l) = FloatOps.addf (w 28) (w 29))
    (h_v1658 : v1658 (ix1 l) = FloatOps.addf (w 30) (w 31)) :
    k3_pay284 v1643 v1644 v1645 v1646 v1647 v1648 v1649 v1650 v1651 v1652 v1653 v1654 v1655 v1656 v1657 v1658 (ix1 l) = tree32 w := by
  unfold k3_pay284
  exact congrArg₂ FloatOps.addf (congrArg₂ FloatOps.addf (congrArg₂ FloatOps.addf (congrArg₂ FloatOps.addf (h_v1643) (h_v1644)) (congrArg₂ FloatOps.addf (h_v1645) (h_v1646))) (congrArg₂ FloatOps.addf (congrArg₂ FloatOps.addf (h_v1647) (h_v1648)) (congrArg₂ FloatOps.addf (h_v1649) (h_v1650)))) (congrArg₂ FloatOps.addf (congrArg₂ FloatOps.addf (congrArg₂ FloatOps.addf (h_v1651) (h_v1652)) (congrArg₂ FloatOps.addf (h_v1653) (h_v1654))) (congrArg₂ FloatOps.addf (congrArg₂ FloatOps.addf (h_v1655) (h_v1656)) (congrArg₂ FloatOps.addf (h_v1657) (h_v1658))))

theorem k3_pay285_lane (v114 : Vec F S1x1x16 .f32) (l : Fin 16) :
    k3_pay285 v114 (ix1 l) = v114 (ix3 (0 : Fin 1) (0 : Fin 1) l) := by
  unfold k3_pay285
  exact cast_16 v114 l

theorem k3_pay286_lane (v119 : Vec F S1x1x16 .f32) (l : Fin 16) :
    k3_pay286 v119 (ix1 l) = v119 (ix3 (0 : Fin 1) (0 : Fin 1) l) := by
  unfold k3_pay286
  exact cast_16 v119 l

theorem k3_pay287_lane (v124 : Vec F S1x1x16 .f32) (l : Fin 16) :
    k3_pay287 v124 (ix1 l) = v124 (ix3 (0 : Fin 1) (0 : Fin 1) l) := by
  unfold k3_pay287
  exact cast_16 v124 l

theorem k3_pay288_lane (v129 : Vec F S1x1x16 .f32) (l : Fin 16) :
    k3_pay288 v129 (ix1 l) = v129 (ix3 (0 : Fin 1) (0 : Fin 1) l) := by
  unfold k3_pay288
  exact cast_16 v129 l

theorem k3_pay289_lane (v134 : Vec F S1x1x16 .f32) (l : Fin 16) :
    k3_pay289 v134 (ix1 l) = v134 (ix3 (0 : Fin 1) (0 : Fin 1) l) := by
  unfold k3_pay289
  exact cast_16 v134 l

theorem k3_pay290_lane (v139 : Vec F S1x1x16 .f32) (l : Fin 16) :
    k3_pay290 v139 (ix1 l) = v139 (ix3 (0 : Fin 1) (0 : Fin 1) l) := by
  unfold k3_pay290
  exact cast_16 v139 l

theorem k3_pay291_lane (v144 : Vec F S1x1x16 .f32) (l : Fin 16) :
    k3_pay291 v144 (ix1 l) = v144 (ix3 (0 : Fin 1) (0 : Fin 1) l) := by
  unfold k3_pay291
  exact cast_16 v144 l

theorem k3_pay292_lane (v149 : Vec F S1x1x16 .f32) (l : Fin 16) :
    k3_pay292 v149 (ix1 l) = v149 (ix3 (0 : Fin 1) (0 : Fin 1) l) := by
  unfold k3_pay292
  exact cast_16 v149 l

theorem k3_pay293_lane (v154 : Vec F S1x1x16 .f32) (l : Fin 16) :
    k3_pay293 v154 (ix1 l) = v154 (ix3 (0 : Fin 1) (0 : Fin 1) l) := by
  unfold k3_pay293
  exact cast_16 v154 l

theorem k3_pay294_lane (v159 : Vec F S1x1x16 .f32) (l : Fin 16) :
    k3_pay294 v159 (ix1 l) = v159 (ix3 (0 : Fin 1) (0 : Fin 1) l) := by
  unfold k3_pay294
  exact cast_16 v159 l

theorem k3_pay295_lane (v164 : Vec F S1x1x16 .f32) (l : Fin 16) :
    k3_pay295 v164 (ix1 l) = v164 (ix3 (0 : Fin 1) (0 : Fin 1) l) := by
  unfold k3_pay295
  exact cast_16 v164 l

theorem k3_pay296_lane (v169 : Vec F S1x1x16 .f32) (l : Fin 16) :
    k3_pay296 v169 (ix1 l) = v169 (ix3 (0 : Fin 1) (0 : Fin 1) l) := by
  unfold k3_pay296
  exact cast_16 v169 l

theorem k3_pay297_lane (v174 : Vec F S1x1x16 .f32) (l : Fin 16) :
    k3_pay297 v174 (ix1 l) = v174 (ix3 (0 : Fin 1) (0 : Fin 1) l) := by
  unfold k3_pay297
  exact cast_16 v174 l

theorem k3_pay298_lane (v179 : Vec F S1x1x16 .f32) (l : Fin 16) :
    k3_pay298 v179 (ix1 l) = v179 (ix3 (0 : Fin 1) (0 : Fin 1) l) := by
  unfold k3_pay298
  exact cast_16 v179 l

theorem k3_pay299_lane (v184 : Vec F S1x1x16 .f32) (l : Fin 16) :
    k3_pay299 v184 (ix1 l) = v184 (ix3 (0 : Fin 1) (0 : Fin 1) l) := by
  unfold k3_pay299
  exact cast_16 v184 l

theorem k3_pay300_lane (v189 : Vec F S1x1x16 .f32) (l : Fin 16) :
    k3_pay300 v189 (ix1 l) = v189 (ix3 (0 : Fin 1) (0 : Fin 1) l) := by
  unfold k3_pay300
  exact cast_16 v189 l

theorem k3_pay301_lane (v194 : Vec F S1x1x16 .f32) (l : Fin 16) :
    k3_pay301 v194 (ix1 l) = v194 (ix3 (0 : Fin 1) (0 : Fin 1) l) := by
  unfold k3_pay301
  exact cast_16 v194 l

theorem k3_pay302_lane (v199 : Vec F S1x1x16 .f32) (l : Fin 16) :
    k3_pay302 v199 (ix1 l) = v199 (ix3 (0 : Fin 1) (0 : Fin 1) l) := by
  unfold k3_pay302
  exact cast_16 v199 l

theorem k3_pay303_lane (v204 : Vec F S1x1x16 .f32) (l : Fin 16) :
    k3_pay303 v204 (ix1 l) = v204 (ix3 (0 : Fin 1) (0 : Fin 1) l) := by
  unfold k3_pay303
  exact cast_16 v204 l

theorem k3_pay304_lane (v209 : Vec F S1x1x16 .f32) (l : Fin 16) :
    k3_pay304 v209 (ix1 l) = v209 (ix3 (0 : Fin 1) (0 : Fin 1) l) := by
  unfold k3_pay304
  exact cast_16 v209 l

theorem k3_pay305_lane (v214 : Vec F S1x1x16 .f32) (l : Fin 16) :
    k3_pay305 v214 (ix1 l) = v214 (ix3 (0 : Fin 1) (0 : Fin 1) l) := by
  unfold k3_pay305
  exact cast_16 v214 l

theorem k3_pay306_lane (v219 : Vec F S1x1x16 .f32) (l : Fin 16) :
    k3_pay306 v219 (ix1 l) = v219 (ix3 (0 : Fin 1) (0 : Fin 1) l) := by
  unfold k3_pay306
  exact cast_16 v219 l

theorem k3_pay307_lane (v224 : Vec F S1x1x16 .f32) (l : Fin 16) :
    k3_pay307 v224 (ix1 l) = v224 (ix3 (0 : Fin 1) (0 : Fin 1) l) := by
  unfold k3_pay307
  exact cast_16 v224 l

theorem k3_pay308_lane (v229 : Vec F S1x1x16 .f32) (l : Fin 16) :
    k3_pay308 v229 (ix1 l) = v229 (ix3 (0 : Fin 1) (0 : Fin 1) l) := by
  unfold k3_pay308
  exact cast_16 v229 l

theorem k3_pay309_lane (v234 : Vec F S1x1x16 .f32) (l : Fin 16) :
    k3_pay309 v234 (ix1 l) = v234 (ix3 (0 : Fin 1) (0 : Fin 1) l) := by
  unfold k3_pay309
  exact cast_16 v234 l

theorem k3_pay310_lane (v239 : Vec F S1x1x16 .f32) (l : Fin 16) :
    k3_pay310 v239 (ix1 l) = v239 (ix3 (0 : Fin 1) (0 : Fin 1) l) := by
  unfold k3_pay310
  exact cast_16 v239 l

theorem k3_pay311_lane (v244 : Vec F S1x1x16 .f32) (l : Fin 16) :
    k3_pay311 v244 (ix1 l) = v244 (ix3 (0 : Fin 1) (0 : Fin 1) l) := by
  unfold k3_pay311
  exact cast_16 v244 l

theorem k3_pay312_lane (v249 : Vec F S1x1x16 .f32) (l : Fin 16) :
    k3_pay312 v249 (ix1 l) = v249 (ix3 (0 : Fin 1) (0 : Fin 1) l) := by
  unfold k3_pay312
  exact cast_16 v249 l

theorem k3_pay313_lane (v254 : Vec F S1x1x16 .f32) (l : Fin 16) :
    k3_pay313 v254 (ix1 l) = v254 (ix3 (0 : Fin 1) (0 : Fin 1) l) := by
  unfold k3_pay313
  exact cast_16 v254 l

theorem k3_pay314_lane (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (l : Fin 16) :
    k3_pay314 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = FloatOps.addf (FloatOps.addf (FloatOps.addf (FloatOps.addf (FloatOps.addf (v115 (ix1 l)) (v120 (ix1 l))) (FloatOps.addf (v125 (ix1 l)) (v130 (ix1 l)))) (FloatOps.addf (FloatOps.addf (v135 (ix1 l)) (v140 (ix1 l))) (FloatOps.addf (v145 (ix1 l)) (v150 (ix1 l))))) (FloatOps.addf (FloatOps.addf (FloatOps.addf (v155 (ix1 l)) (v160 (ix1 l))) (FloatOps.addf (v165 (ix1 l)) (v170 (ix1 l)))) (FloatOps.addf (FloatOps.addf (v175 (ix1 l)) (v180 (ix1 l))) (FloatOps.addf (v185 (ix1 l)) (v190 (ix1 l)))))) (FloatOps.addf (FloatOps.addf (FloatOps.addf (FloatOps.addf (v195 (ix1 l)) (v200 (ix1 l))) (FloatOps.addf (v205 (ix1 l)) (v210 (ix1 l)))) (FloatOps.addf (FloatOps.addf (v215 (ix1 l)) (v220 (ix1 l))) (FloatOps.addf (v225 (ix1 l)) (v230 (ix1 l))))) (FloatOps.addf (FloatOps.addf (FloatOps.addf (v235 (ix1 l)) (v240 (ix1 l))) (FloatOps.addf (v245 (ix1 l)) (v250 (ix1 l)))) (FloatOps.addf (FloatOps.addf (v255 (ix1 l)) (v259 (ix3 (0 : Fin 1) (0 : Fin 1) l))) (FloatOps.addf (v264 (ix3 (0 : Fin 1) (0 : Fin 1) l)) (v269 (ix3 (0 : Fin 1) (0 : Fin 1) l)))))) := by
  unfold k3_pay314
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (cast_16 v259 l)) (congrArg₂ FloatOps.addf (cast_16 v264 l) (cast_16 v269 l)))))

theorem k3_pay314_tree (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (w : Fin 32 → F .f32) (l : Fin 16)
    (h_v115 : v115 (ix1 l) = w 0)
    (h_v120 : v120 (ix1 l) = w 1)
    (h_v125 : v125 (ix1 l) = w 2)
    (h_v130 : v130 (ix1 l) = w 3)
    (h_v135 : v135 (ix1 l) = w 4)
    (h_v140 : v140 (ix1 l) = w 5)
    (h_v145 : v145 (ix1 l) = w 6)
    (h_v150 : v150 (ix1 l) = w 7)
    (h_v155 : v155 (ix1 l) = w 8)
    (h_v160 : v160 (ix1 l) = w 9)
    (h_v165 : v165 (ix1 l) = w 10)
    (h_v170 : v170 (ix1 l) = w 11)
    (h_v175 : v175 (ix1 l) = w 12)
    (h_v180 : v180 (ix1 l) = w 13)
    (h_v185 : v185 (ix1 l) = w 14)
    (h_v190 : v190 (ix1 l) = w 15)
    (h_v195 : v195 (ix1 l) = w 16)
    (h_v200 : v200 (ix1 l) = w 17)
    (h_v205 : v205 (ix1 l) = w 18)
    (h_v210 : v210 (ix1 l) = w 19)
    (h_v215 : v215 (ix1 l) = w 20)
    (h_v220 : v220 (ix1 l) = w 21)
    (h_v225 : v225 (ix1 l) = w 22)
    (h_v230 : v230 (ix1 l) = w 23)
    (h_v235 : v235 (ix1 l) = w 24)
    (h_v240 : v240 (ix1 l) = w 25)
    (h_v245 : v245 (ix1 l) = w 26)
    (h_v250 : v250 (ix1 l) = w 27)
    (h_v255 : v255 (ix1 l) = w 28)
    (h_v259 : v259 (ix3 (0 : Fin 1) (0 : Fin 1) l) = w 29)
    (h_v264 : v264 (ix3 (0 : Fin 1) (0 : Fin 1) l) = w 30)
    (h_v269 : v269 (ix3 (0 : Fin 1) (0 : Fin 1) l) = w 31) :
    k3_pay314 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = tree32 w := by
  unfold k3_pay314
  refine (cast_116 _ l).trans ?_
  exact congrArg₂ FloatOps.addf (congrArg₂ FloatOps.addf (congrArg₂ FloatOps.addf (congrArg₂ FloatOps.addf (congrArg₂ FloatOps.addf (h_v115) (h_v120)) (congrArg₂ FloatOps.addf (h_v125) (h_v130))) (congrArg₂ FloatOps.addf (congrArg₂ FloatOps.addf (h_v135) (h_v140)) (congrArg₂ FloatOps.addf (h_v145) (h_v150)))) (congrArg₂ FloatOps.addf (congrArg₂ FloatOps.addf (congrArg₂ FloatOps.addf (h_v155) (h_v160)) (congrArg₂ FloatOps.addf (h_v165) (h_v170))) (congrArg₂ FloatOps.addf (congrArg₂ FloatOps.addf (h_v175) (h_v180)) (congrArg₂ FloatOps.addf (h_v185) (h_v190))))) (congrArg₂ FloatOps.addf (congrArg₂ FloatOps.addf (congrArg₂ FloatOps.addf (congrArg₂ FloatOps.addf (h_v195) (h_v200)) (congrArg₂ FloatOps.addf (h_v205) (h_v210))) (congrArg₂ FloatOps.addf (congrArg₂ FloatOps.addf (h_v215) (h_v220)) (congrArg₂ FloatOps.addf (h_v225) (h_v230)))) (congrArg₂ FloatOps.addf (congrArg₂ FloatOps.addf (congrArg₂ FloatOps.addf (h_v235) (h_v240)) (congrArg₂ FloatOps.addf (h_v245) (h_v250))) (congrArg₂ FloatOps.addf (congrArg₂ FloatOps.addf (h_v255) ((cast_16 v259 l).trans h_v259)) (congrArg₂ FloatOps.addf ((cast_16 v264 l).trans h_v264) ((cast_16 v269 l).trans h_v269)))))

theorem k3_pay315_lane (v310 : Vec F S1x1x16 .f32) (l : Fin 16) :
    k3_pay315 v310 (ix1 l) = v310 (ix3 (0 : Fin 1) (0 : Fin 1) l) := by
  unfold k3_pay315
  exact cast_16 v310 l

theorem k3_pay316_lane (v315 : Vec F S1x1x16 .f32) (l : Fin 16) :
    k3_pay316 v315 (ix1 l) = v315 (ix3 (0 : Fin 1) (0 : Fin 1) l) := by
  unfold k3_pay316
  exact cast_16 v315 l

theorem k3_pay317_lane (v320 : Vec F S1x1x16 .f32) (l : Fin 16) :
    k3_pay317 v320 (ix1 l) = v320 (ix3 (0 : Fin 1) (0 : Fin 1) l) := by
  unfold k3_pay317
  exact cast_16 v320 l

theorem k3_pay318_lane (v325 : Vec F S1x1x16 .f32) (l : Fin 16) :
    k3_pay318 v325 (ix1 l) = v325 (ix3 (0 : Fin 1) (0 : Fin 1) l) := by
  unfold k3_pay318
  exact cast_16 v325 l

theorem k3_pay319_lane (v330 : Vec F S1x1x16 .f32) (l : Fin 16) :
    k3_pay319 v330 (ix1 l) = v330 (ix3 (0 : Fin 1) (0 : Fin 1) l) := by
  unfold k3_pay319
  exact cast_16 v330 l

theorem k3_pay320_lane (v335 : Vec F S1x1x16 .f32) (l : Fin 16) :
    k3_pay320 v335 (ix1 l) = v335 (ix3 (0 : Fin 1) (0 : Fin 1) l) := by
  unfold k3_pay320
  exact cast_16 v335 l

theorem k3_pay321_lane (v340 : Vec F S1x1x16 .f32) (l : Fin 16) :
    k3_pay321 v340 (ix1 l) = v340 (ix3 (0 : Fin 1) (0 : Fin 1) l) := by
  unfold k3_pay321
  exact cast_16 v340 l

theorem k3_pay322_lane (v345 : Vec F S1x1x16 .f32) (l : Fin 16) :
    k3_pay322 v345 (ix1 l) = v345 (ix3 (0 : Fin 1) (0 : Fin 1) l) := by
  unfold k3_pay322
  exact cast_16 v345 l

theorem k3_pay323_lane (v350 : Vec F S1x1x16 .f32) (l : Fin 16) :
    k3_pay323 v350 (ix1 l) = v350 (ix3 (0 : Fin 1) (0 : Fin 1) l) := by
  unfold k3_pay323
  exact cast_16 v350 l

theorem k3_pay324_lane (v355 : Vec F S1x1x16 .f32) (l : Fin 16) :
    k3_pay324 v355 (ix1 l) = v355 (ix3 (0 : Fin 1) (0 : Fin 1) l) := by
  unfold k3_pay324
  exact cast_16 v355 l

theorem k3_pay325_lane (v360 : Vec F S1x1x16 .f32) (l : Fin 16) :
    k3_pay325 v360 (ix1 l) = v360 (ix3 (0 : Fin 1) (0 : Fin 1) l) := by
  unfold k3_pay325
  exact cast_16 v360 l

theorem k3_pay326_lane (v365 : Vec F S1x1x16 .f32) (l : Fin 16) :
    k3_pay326 v365 (ix1 l) = v365 (ix3 (0 : Fin 1) (0 : Fin 1) l) := by
  unfold k3_pay326
  exact cast_16 v365 l

theorem k3_pay327_lane (v370 : Vec F S1x1x16 .f32) (l : Fin 16) :
    k3_pay327 v370 (ix1 l) = v370 (ix3 (0 : Fin 1) (0 : Fin 1) l) := by
  unfold k3_pay327
  exact cast_16 v370 l

theorem k3_pay328_lane (v375 : Vec F S1x1x16 .f32) (l : Fin 16) :
    k3_pay328 v375 (ix1 l) = v375 (ix3 (0 : Fin 1) (0 : Fin 1) l) := by
  unfold k3_pay328
  exact cast_16 v375 l

theorem k3_pay329_lane (v380 : Vec F S1x1x16 .f32) (l : Fin 16) :
    k3_pay329 v380 (ix1 l) = v380 (ix3 (0 : Fin 1) (0 : Fin 1) l) := by
  unfold k3_pay329
  exact cast_16 v380 l

theorem k3_pay330_lane (v385 : Vec F S1x1x16 .f32) (l : Fin 16) :
    k3_pay330 v385 (ix1 l) = v385 (ix3 (0 : Fin 1) (0 : Fin 1) l) := by
  unfold k3_pay330
  exact cast_16 v385 l

theorem k3_pay331_lane (v390 : Vec F S1x1x16 .f32) (l : Fin 16) :
    k3_pay331 v390 (ix1 l) = v390 (ix3 (0 : Fin 1) (0 : Fin 1) l) := by
  unfold k3_pay331
  exact cast_16 v390 l

theorem k3_pay332_lane (v395 : Vec F S1x1x16 .f32) (l : Fin 16) :
    k3_pay332 v395 (ix1 l) = v395 (ix3 (0 : Fin 1) (0 : Fin 1) l) := by
  unfold k3_pay332
  exact cast_16 v395 l

theorem k3_pay333_lane (v400 : Vec F S1x1x16 .f32) (l : Fin 16) :
    k3_pay333 v400 (ix1 l) = v400 (ix3 (0 : Fin 1) (0 : Fin 1) l) := by
  unfold k3_pay333
  exact cast_16 v400 l

theorem k3_pay334_lane (v405 : Vec F S1x1x16 .f32) (l : Fin 16) :
    k3_pay334 v405 (ix1 l) = v405 (ix3 (0 : Fin 1) (0 : Fin 1) l) := by
  unfold k3_pay334
  exact cast_16 v405 l

theorem k3_pay335_lane (v410 : Vec F S1x1x16 .f32) (l : Fin 16) :
    k3_pay335 v410 (ix1 l) = v410 (ix3 (0 : Fin 1) (0 : Fin 1) l) := by
  unfold k3_pay335
  exact cast_16 v410 l

theorem k3_pay336_lane (v415 : Vec F S1x1x16 .f32) (l : Fin 16) :
    k3_pay336 v415 (ix1 l) = v415 (ix3 (0 : Fin 1) (0 : Fin 1) l) := by
  unfold k3_pay336
  exact cast_16 v415 l

theorem k3_pay337_lane (v420 : Vec F S1x1x16 .f32) (l : Fin 16) :
    k3_pay337 v420 (ix1 l) = v420 (ix3 (0 : Fin 1) (0 : Fin 1) l) := by
  unfold k3_pay337
  exact cast_16 v420 l

theorem k3_pay338_lane (v425 : Vec F S1x1x16 .f32) (l : Fin 16) :
    k3_pay338 v425 (ix1 l) = v425 (ix3 (0 : Fin 1) (0 : Fin 1) l) := by
  unfold k3_pay338
  exact cast_16 v425 l

theorem k3_pay339_lane (v430 : Vec F S1x1x16 .f32) (l : Fin 16) :
    k3_pay339 v430 (ix1 l) = v430 (ix3 (0 : Fin 1) (0 : Fin 1) l) := by
  unfold k3_pay339
  exact cast_16 v430 l

theorem k3_pay340_lane (v435 : Vec F S1x1x16 .f32) (l : Fin 16) :
    k3_pay340 v435 (ix1 l) = v435 (ix3 (0 : Fin 1) (0 : Fin 1) l) := by
  unfold k3_pay340
  exact cast_16 v435 l

theorem k3_pay341_lane (v440 : Vec F S1x1x16 .f32) (l : Fin 16) :
    k3_pay341 v440 (ix1 l) = v440 (ix3 (0 : Fin 1) (0 : Fin 1) l) := by
  unfold k3_pay341
  exact cast_16 v440 l

theorem k3_pay342_lane (v445 : Vec F S1x1x16 .f32) (l : Fin 16) :
    k3_pay342 v445 (ix1 l) = v445 (ix3 (0 : Fin 1) (0 : Fin 1) l) := by
  unfold k3_pay342
  exact cast_16 v445 l

theorem k3_pay343_lane (v450 : Vec F S1x1x16 .f32) (l : Fin 16) :
    k3_pay343 v450 (ix1 l) = v450 (ix3 (0 : Fin 1) (0 : Fin 1) l) := by
  unfold k3_pay343
  exact cast_16 v450 l

theorem k3_pay344_lane (v455 : Vec F S1x1x16 .f32) (l : Fin 16) :
    k3_pay344 v455 (ix1 l) = v455 (ix3 (0 : Fin 1) (0 : Fin 1) l) := by
  unfold k3_pay344
  exact cast_16 v455 l

theorem k3_pay345_lane (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (l : Fin 16) :
    k3_pay345 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = FloatOps.addf (FloatOps.addf (FloatOps.addf (FloatOps.addf (FloatOps.addf (v311 (ix1 l)) (v316 (ix1 l))) (FloatOps.addf (v321 (ix1 l)) (v326 (ix1 l)))) (FloatOps.addf (FloatOps.addf (v331 (ix1 l)) (v336 (ix1 l))) (FloatOps.addf (v341 (ix1 l)) (v346 (ix1 l))))) (FloatOps.addf (FloatOps.addf (FloatOps.addf (v351 (ix1 l)) (v356 (ix1 l))) (FloatOps.addf (v361 (ix1 l)) (v366 (ix1 l)))) (FloatOps.addf (FloatOps.addf (v371 (ix1 l)) (v376 (ix1 l))) (FloatOps.addf (v381 (ix1 l)) (v386 (ix1 l)))))) (FloatOps.addf (FloatOps.addf (FloatOps.addf (FloatOps.addf (v391 (ix1 l)) (v396 (ix1 l))) (FloatOps.addf (v401 (ix1 l)) (v406 (ix1 l)))) (FloatOps.addf (FloatOps.addf (v411 (ix1 l)) (v416 (ix1 l))) (FloatOps.addf (v421 (ix1 l)) (v426 (ix1 l))))) (FloatOps.addf (FloatOps.addf (FloatOps.addf (v431 (ix1 l)) (v436 (ix1 l))) (FloatOps.addf (v441 (ix1 l)) (v446 (ix1 l)))) (FloatOps.addf (FloatOps.addf (v451 (ix1 l)) (v456 (ix1 l))) (FloatOps.addf (v460 (ix3 (0 : Fin 1) (0 : Fin 1) l)) (v465 (ix3 (0 : Fin 1) (0 : Fin 1) l)))))) := by
  unfold k3_pay345
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v460 l) (cast_16 v465 l)))))

theorem k3_pay345_tree (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (w : Fin 32 → F .f32) (l : Fin 16)
    (h_v311 : v311 (ix1 l) = w 0)
    (h_v316 : v316 (ix1 l) = w 1)
    (h_v321 : v321 (ix1 l) = w 2)
    (h_v326 : v326 (ix1 l) = w 3)
    (h_v331 : v331 (ix1 l) = w 4)
    (h_v336 : v336 (ix1 l) = w 5)
    (h_v341 : v341 (ix1 l) = w 6)
    (h_v346 : v346 (ix1 l) = w 7)
    (h_v351 : v351 (ix1 l) = w 8)
    (h_v356 : v356 (ix1 l) = w 9)
    (h_v361 : v361 (ix1 l) = w 10)
    (h_v366 : v366 (ix1 l) = w 11)
    (h_v371 : v371 (ix1 l) = w 12)
    (h_v376 : v376 (ix1 l) = w 13)
    (h_v381 : v381 (ix1 l) = w 14)
    (h_v386 : v386 (ix1 l) = w 15)
    (h_v391 : v391 (ix1 l) = w 16)
    (h_v396 : v396 (ix1 l) = w 17)
    (h_v401 : v401 (ix1 l) = w 18)
    (h_v406 : v406 (ix1 l) = w 19)
    (h_v411 : v411 (ix1 l) = w 20)
    (h_v416 : v416 (ix1 l) = w 21)
    (h_v421 : v421 (ix1 l) = w 22)
    (h_v426 : v426 (ix1 l) = w 23)
    (h_v431 : v431 (ix1 l) = w 24)
    (h_v436 : v436 (ix1 l) = w 25)
    (h_v441 : v441 (ix1 l) = w 26)
    (h_v446 : v446 (ix1 l) = w 27)
    (h_v451 : v451 (ix1 l) = w 28)
    (h_v456 : v456 (ix1 l) = w 29)
    (h_v460 : v460 (ix3 (0 : Fin 1) (0 : Fin 1) l) = w 30)
    (h_v465 : v465 (ix3 (0 : Fin 1) (0 : Fin 1) l) = w 31) :
    k3_pay345 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = tree32 w := by
  unfold k3_pay345
  refine (cast_116 _ l).trans ?_
  exact congrArg₂ FloatOps.addf (congrArg₂ FloatOps.addf (congrArg₂ FloatOps.addf (congrArg₂ FloatOps.addf (congrArg₂ FloatOps.addf (h_v311) (h_v316)) (congrArg₂ FloatOps.addf (h_v321) (h_v326))) (congrArg₂ FloatOps.addf (congrArg₂ FloatOps.addf (h_v331) (h_v336)) (congrArg₂ FloatOps.addf (h_v341) (h_v346)))) (congrArg₂ FloatOps.addf (congrArg₂ FloatOps.addf (congrArg₂ FloatOps.addf (h_v351) (h_v356)) (congrArg₂ FloatOps.addf (h_v361) (h_v366))) (congrArg₂ FloatOps.addf (congrArg₂ FloatOps.addf (h_v371) (h_v376)) (congrArg₂ FloatOps.addf (h_v381) (h_v386))))) (congrArg₂ FloatOps.addf (congrArg₂ FloatOps.addf (congrArg₂ FloatOps.addf (congrArg₂ FloatOps.addf (h_v391) (h_v396)) (congrArg₂ FloatOps.addf (h_v401) (h_v406))) (congrArg₂ FloatOps.addf (congrArg₂ FloatOps.addf (h_v411) (h_v416)) (congrArg₂ FloatOps.addf (h_v421) (h_v426)))) (congrArg₂ FloatOps.addf (congrArg₂ FloatOps.addf (congrArg₂ FloatOps.addf (h_v431) (h_v436)) (congrArg₂ FloatOps.addf (h_v441) (h_v446))) (congrArg₂ FloatOps.addf (congrArg₂ FloatOps.addf (h_v451) (h_v456)) (congrArg₂ FloatOps.addf ((cast_16 v460 l).trans h_v460) ((cast_16 v465 l).trans h_v465)))))

theorem k3_pay346_lane (v506 : Vec F S1x1x16 .f32) (l : Fin 16) :
    k3_pay346 v506 (ix1 l) = v506 (ix3 (0 : Fin 1) (0 : Fin 1) l) := by
  unfold k3_pay346
  exact cast_16 v506 l

theorem k3_pay347_lane (v511 : Vec F S1x1x16 .f32) (l : Fin 16) :
    k3_pay347 v511 (ix1 l) = v511 (ix3 (0 : Fin 1) (0 : Fin 1) l) := by
  unfold k3_pay347
  exact cast_16 v511 l

theorem k3_pay348_lane (v516 : Vec F S1x1x16 .f32) (l : Fin 16) :
    k3_pay348 v516 (ix1 l) = v516 (ix3 (0 : Fin 1) (0 : Fin 1) l) := by
  unfold k3_pay348
  exact cast_16 v516 l

theorem k3_pay349_lane (v521 : Vec F S1x1x16 .f32) (l : Fin 16) :
    k3_pay349 v521 (ix1 l) = v521 (ix3 (0 : Fin 1) (0 : Fin 1) l) := by
  unfold k3_pay349
  exact cast_16 v521 l

theorem k3_pay350_lane (v526 : Vec F S1x1x16 .f32) (l : Fin 16) :
    k3_pay350 v526 (ix1 l) = v526 (ix3 (0 : Fin 1) (0 : Fin 1) l) := by
  unfold k3_pay350
  exact cast_16 v526 l

theorem k3_pay351_lane (v531 : Vec F S1x1x16 .f32) (l : Fin 16) :
    k3_pay351 v531 (ix1 l) = v531 (ix3 (0 : Fin 1) (0 : Fin 1) l) := by
  unfold k3_pay351
  exact cast_16 v531 l

theorem k3_pay352_lane (v536 : Vec F S1x1x16 .f32) (l : Fin 16) :
    k3_pay352 v536 (ix1 l) = v536 (ix3 (0 : Fin 1) (0 : Fin 1) l) := by
  unfold k3_pay352
  exact cast_16 v536 l

theorem k3_pay353_lane (v541 : Vec F S1x1x16 .f32) (l : Fin 16) :
    k3_pay353 v541 (ix1 l) = v541 (ix3 (0 : Fin 1) (0 : Fin 1) l) := by
  unfold k3_pay353
  exact cast_16 v541 l

theorem k3_pay354_lane (v546 : Vec F S1x1x16 .f32) (l : Fin 16) :
    k3_pay354 v546 (ix1 l) = v546 (ix3 (0 : Fin 1) (0 : Fin 1) l) := by
  unfold k3_pay354
  exact cast_16 v546 l

theorem k3_pay355_lane (v551 : Vec F S1x1x16 .f32) (l : Fin 16) :
    k3_pay355 v551 (ix1 l) = v551 (ix3 (0 : Fin 1) (0 : Fin 1) l) := by
  unfold k3_pay355
  exact cast_16 v551 l

theorem k3_pay356_lane (v556 : Vec F S1x1x16 .f32) (l : Fin 16) :
    k3_pay356 v556 (ix1 l) = v556 (ix3 (0 : Fin 1) (0 : Fin 1) l) := by
  unfold k3_pay356
  exact cast_16 v556 l

theorem k3_pay357_lane (v561 : Vec F S1x1x16 .f32) (l : Fin 16) :
    k3_pay357 v561 (ix1 l) = v561 (ix3 (0 : Fin 1) (0 : Fin 1) l) := by
  unfold k3_pay357
  exact cast_16 v561 l

theorem k3_pay358_lane (v566 : Vec F S1x1x16 .f32) (l : Fin 16) :
    k3_pay358 v566 (ix1 l) = v566 (ix3 (0 : Fin 1) (0 : Fin 1) l) := by
  unfold k3_pay358
  exact cast_16 v566 l

theorem k3_pay359_lane (v571 : Vec F S1x1x16 .f32) (l : Fin 16) :
    k3_pay359 v571 (ix1 l) = v571 (ix3 (0 : Fin 1) (0 : Fin 1) l) := by
  unfold k3_pay359
  exact cast_16 v571 l

theorem k3_pay360_lane (v576 : Vec F S1x1x16 .f32) (l : Fin 16) :
    k3_pay360 v576 (ix1 l) = v576 (ix3 (0 : Fin 1) (0 : Fin 1) l) := by
  unfold k3_pay360
  exact cast_16 v576 l

theorem k3_pay361_lane (v581 : Vec F S1x1x16 .f32) (l : Fin 16) :
    k3_pay361 v581 (ix1 l) = v581 (ix3 (0 : Fin 1) (0 : Fin 1) l) := by
  unfold k3_pay361
  exact cast_16 v581 l

theorem k3_pay362_lane (v586 : Vec F S1x1x16 .f32) (l : Fin 16) :
    k3_pay362 v586 (ix1 l) = v586 (ix3 (0 : Fin 1) (0 : Fin 1) l) := by
  unfold k3_pay362
  exact cast_16 v586 l

theorem k3_pay363_lane (v591 : Vec F S1x1x16 .f32) (l : Fin 16) :
    k3_pay363 v591 (ix1 l) = v591 (ix3 (0 : Fin 1) (0 : Fin 1) l) := by
  unfold k3_pay363
  exact cast_16 v591 l

theorem k3_pay364_lane (v596 : Vec F S1x1x16 .f32) (l : Fin 16) :
    k3_pay364 v596 (ix1 l) = v596 (ix3 (0 : Fin 1) (0 : Fin 1) l) := by
  unfold k3_pay364
  exact cast_16 v596 l

theorem k3_pay365_lane (v601 : Vec F S1x1x16 .f32) (l : Fin 16) :
    k3_pay365 v601 (ix1 l) = v601 (ix3 (0 : Fin 1) (0 : Fin 1) l) := by
  unfold k3_pay365
  exact cast_16 v601 l

theorem k3_pay366_lane (v606 : Vec F S1x1x16 .f32) (l : Fin 16) :
    k3_pay366 v606 (ix1 l) = v606 (ix3 (0 : Fin 1) (0 : Fin 1) l) := by
  unfold k3_pay366
  exact cast_16 v606 l

theorem k3_pay367_lane (v611 : Vec F S1x1x16 .f32) (l : Fin 16) :
    k3_pay367 v611 (ix1 l) = v611 (ix3 (0 : Fin 1) (0 : Fin 1) l) := by
  unfold k3_pay367
  exact cast_16 v611 l

theorem k3_pay368_lane (v616 : Vec F S1x1x16 .f32) (l : Fin 16) :
    k3_pay368 v616 (ix1 l) = v616 (ix3 (0 : Fin 1) (0 : Fin 1) l) := by
  unfold k3_pay368
  exact cast_16 v616 l

theorem k3_pay369_lane (v621 : Vec F S1x1x16 .f32) (l : Fin 16) :
    k3_pay369 v621 (ix1 l) = v621 (ix3 (0 : Fin 1) (0 : Fin 1) l) := by
  unfold k3_pay369
  exact cast_16 v621 l

theorem k3_pay370_lane (v626 : Vec F S1x1x16 .f32) (l : Fin 16) :
    k3_pay370 v626 (ix1 l) = v626 (ix3 (0 : Fin 1) (0 : Fin 1) l) := by
  unfold k3_pay370
  exact cast_16 v626 l

theorem k3_pay371_lane (v631 : Vec F S1x1x16 .f32) (l : Fin 16) :
    k3_pay371 v631 (ix1 l) = v631 (ix3 (0 : Fin 1) (0 : Fin 1) l) := by
  unfold k3_pay371
  exact cast_16 v631 l

theorem k3_pay372_lane (v636 : Vec F S1x1x16 .f32) (l : Fin 16) :
    k3_pay372 v636 (ix1 l) = v636 (ix3 (0 : Fin 1) (0 : Fin 1) l) := by
  unfold k3_pay372
  exact cast_16 v636 l

theorem k3_pay373_lane (v641 : Vec F S1x1x16 .f32) (l : Fin 16) :
    k3_pay373 v641 (ix1 l) = v641 (ix3 (0 : Fin 1) (0 : Fin 1) l) := by
  unfold k3_pay373
  exact cast_16 v641 l

theorem k3_pay374_lane (v646 : Vec F S1x1x16 .f32) (l : Fin 16) :
    k3_pay374 v646 (ix1 l) = v646 (ix3 (0 : Fin 1) (0 : Fin 1) l) := by
  unfold k3_pay374
  exact cast_16 v646 l

theorem k3_pay375_lane (v651 : Vec F S1x1x16 .f32) (l : Fin 16) :
    k3_pay375 v651 (ix1 l) = v651 (ix3 (0 : Fin 1) (0 : Fin 1) l) := by
  unfold k3_pay375
  exact cast_16 v651 l

theorem k3_pay376_lane (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (l : Fin 16) :
    k3_pay376 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = FloatOps.addf (FloatOps.addf (FloatOps.addf (FloatOps.addf (FloatOps.addf (v507 (ix1 l)) (v512 (ix1 l))) (FloatOps.addf (v517 (ix1 l)) (v522 (ix1 l)))) (FloatOps.addf (FloatOps.addf (v527 (ix1 l)) (v532 (ix1 l))) (FloatOps.addf (v537 (ix1 l)) (v542 (ix1 l))))) (FloatOps.addf (FloatOps.addf (FloatOps.addf (v547 (ix1 l)) (v552 (ix1 l))) (FloatOps.addf (v557 (ix1 l)) (v562 (ix1 l)))) (FloatOps.addf (FloatOps.addf (v567 (ix1 l)) (v572 (ix1 l))) (FloatOps.addf (v577 (ix1 l)) (v582 (ix1 l)))))) (FloatOps.addf (FloatOps.addf (FloatOps.addf (FloatOps.addf (v587 (ix1 l)) (v592 (ix1 l))) (FloatOps.addf (v597 (ix1 l)) (v602 (ix1 l)))) (FloatOps.addf (FloatOps.addf (v607 (ix1 l)) (v612 (ix1 l))) (FloatOps.addf (v617 (ix1 l)) (v622 (ix1 l))))) (FloatOps.addf (FloatOps.addf (FloatOps.addf (v627 (ix1 l)) (v632 (ix1 l))) (FloatOps.addf (v637 (ix1 l)) (v642 (ix1 l)))) (FloatOps.addf (FloatOps.addf (v647 (ix1 l)) (v652 (ix1 l))) (FloatOps.addf (v656 (ix3 (0 : Fin 1) (0 : Fin 1) l)) (v661 (ix3 (0 : Fin 1) (0 : Fin 1) l)))))) := by
  unfold k3_pay376
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v656 l) (cast_16 v661 l)))))

theorem k3_pay376_tree (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (w : Fin 32 → F .f32) (l : Fin 16)
    (h_v507 : v507 (ix1 l) = w 0)
    (h_v512 : v512 (ix1 l) = w 1)
    (h_v517 : v517 (ix1 l) = w 2)
    (h_v522 : v522 (ix1 l) = w 3)
    (h_v527 : v527 (ix1 l) = w 4)
    (h_v532 : v532 (ix1 l) = w 5)
    (h_v537 : v537 (ix1 l) = w 6)
    (h_v542 : v542 (ix1 l) = w 7)
    (h_v547 : v547 (ix1 l) = w 8)
    (h_v552 : v552 (ix1 l) = w 9)
    (h_v557 : v557 (ix1 l) = w 10)
    (h_v562 : v562 (ix1 l) = w 11)
    (h_v567 : v567 (ix1 l) = w 12)
    (h_v572 : v572 (ix1 l) = w 13)
    (h_v577 : v577 (ix1 l) = w 14)
    (h_v582 : v582 (ix1 l) = w 15)
    (h_v587 : v587 (ix1 l) = w 16)
    (h_v592 : v592 (ix1 l) = w 17)
    (h_v597 : v597 (ix1 l) = w 18)
    (h_v602 : v602 (ix1 l) = w 19)
    (h_v607 : v607 (ix1 l) = w 20)
    (h_v612 : v612 (ix1 l) = w 21)
    (h_v617 : v617 (ix1 l) = w 22)
    (h_v622 : v622 (ix1 l) = w 23)
    (h_v627 : v627 (ix1 l) = w 24)
    (h_v632 : v632 (ix1 l) = w 25)
    (h_v637 : v637 (ix1 l) = w 26)
    (h_v642 : v642 (ix1 l) = w 27)
    (h_v647 : v647 (ix1 l) = w 28)
    (h_v652 : v652 (ix1 l) = w 29)
    (h_v656 : v656 (ix3 (0 : Fin 1) (0 : Fin 1) l) = w 30)
    (h_v661 : v661 (ix3 (0 : Fin 1) (0 : Fin 1) l) = w 31) :
    k3_pay376 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = tree32 w := by
  unfold k3_pay376
  refine (cast_116 _ l).trans ?_
  exact congrArg₂ FloatOps.addf (congrArg₂ FloatOps.addf (congrArg₂ FloatOps.addf (congrArg₂ FloatOps.addf (congrArg₂ FloatOps.addf (h_v507) (h_v512)) (congrArg₂ FloatOps.addf (h_v517) (h_v522))) (congrArg₂ FloatOps.addf (congrArg₂ FloatOps.addf (h_v527) (h_v532)) (congrArg₂ FloatOps.addf (h_v537) (h_v542)))) (congrArg₂ FloatOps.addf (congrArg₂ FloatOps.addf (congrArg₂ FloatOps.addf (h_v547) (h_v552)) (congrArg₂ FloatOps.addf (h_v557) (h_v562))) (congrArg₂ FloatOps.addf (congrArg₂ FloatOps.addf (h_v567) (h_v572)) (congrArg₂ FloatOps.addf (h_v577) (h_v582))))) (congrArg₂ FloatOps.addf (congrArg₂ FloatOps.addf (congrArg₂ FloatOps.addf (congrArg₂ FloatOps.addf (h_v587) (h_v592)) (congrArg₂ FloatOps.addf (h_v597) (h_v602))) (congrArg₂ FloatOps.addf (congrArg₂ FloatOps.addf (h_v607) (h_v612)) (congrArg₂ FloatOps.addf (h_v617) (h_v622)))) (congrArg₂ FloatOps.addf (congrArg₂ FloatOps.addf (congrArg₂ FloatOps.addf (h_v627) (h_v632)) (congrArg₂ FloatOps.addf (h_v637) (h_v642))) (congrArg₂ FloatOps.addf (congrArg₂ FloatOps.addf (h_v647) (h_v652)) (congrArg₂ FloatOps.addf ((cast_16 v656 l).trans h_v656) ((cast_16 v661 l).trans h_v661)))))

theorem k3_pay377_lane (v702 : Vec F S1x1x16 .f32) (l : Fin 16) :
    k3_pay377 v702 (ix1 l) = v702 (ix3 (0 : Fin 1) (0 : Fin 1) l) := by
  unfold k3_pay377
  exact cast_16 v702 l

theorem k3_pay378_lane (v707 : Vec F S1x1x16 .f32) (l : Fin 16) :
    k3_pay378 v707 (ix1 l) = v707 (ix3 (0 : Fin 1) (0 : Fin 1) l) := by
  unfold k3_pay378
  exact cast_16 v707 l

theorem k3_pay379_lane (v712 : Vec F S1x1x16 .f32) (l : Fin 16) :
    k3_pay379 v712 (ix1 l) = v712 (ix3 (0 : Fin 1) (0 : Fin 1) l) := by
  unfold k3_pay379
  exact cast_16 v712 l

theorem k3_pay380_lane (v717 : Vec F S1x1x16 .f32) (l : Fin 16) :
    k3_pay380 v717 (ix1 l) = v717 (ix3 (0 : Fin 1) (0 : Fin 1) l) := by
  unfold k3_pay380
  exact cast_16 v717 l

theorem k3_pay381_lane (v722 : Vec F S1x1x16 .f32) (l : Fin 16) :
    k3_pay381 v722 (ix1 l) = v722 (ix3 (0 : Fin 1) (0 : Fin 1) l) := by
  unfold k3_pay381
  exact cast_16 v722 l

theorem k3_pay382_lane (v727 : Vec F S1x1x16 .f32) (l : Fin 16) :
    k3_pay382 v727 (ix1 l) = v727 (ix3 (0 : Fin 1) (0 : Fin 1) l) := by
  unfold k3_pay382
  exact cast_16 v727 l

theorem k3_pay383_lane (v732 : Vec F S1x1x16 .f32) (l : Fin 16) :
    k3_pay383 v732 (ix1 l) = v732 (ix3 (0 : Fin 1) (0 : Fin 1) l) := by
  unfold k3_pay383
  exact cast_16 v732 l

theorem k3_pay384_lane (v737 : Vec F S1x1x16 .f32) (l : Fin 16) :
    k3_pay384 v737 (ix1 l) = v737 (ix3 (0 : Fin 1) (0 : Fin 1) l) := by
  unfold k3_pay384
  exact cast_16 v737 l

theorem k3_pay385_lane (v742 : Vec F S1x1x16 .f32) (l : Fin 16) :
    k3_pay385 v742 (ix1 l) = v742 (ix3 (0 : Fin 1) (0 : Fin 1) l) := by
  unfold k3_pay385
  exact cast_16 v742 l

theorem k3_pay386_lane (v747 : Vec F S1x1x16 .f32) (l : Fin 16) :
    k3_pay386 v747 (ix1 l) = v747 (ix3 (0 : Fin 1) (0 : Fin 1) l) := by
  unfold k3_pay386
  exact cast_16 v747 l

theorem k3_pay387_lane (v752 : Vec F S1x1x16 .f32) (l : Fin 16) :
    k3_pay387 v752 (ix1 l) = v752 (ix3 (0 : Fin 1) (0 : Fin 1) l) := by
  unfold k3_pay387
  exact cast_16 v752 l

theorem k3_pay388_lane (v757 : Vec F S1x1x16 .f32) (l : Fin 16) :
    k3_pay388 v757 (ix1 l) = v757 (ix3 (0 : Fin 1) (0 : Fin 1) l) := by
  unfold k3_pay388
  exact cast_16 v757 l

theorem k3_pay389_lane (v762 : Vec F S1x1x16 .f32) (l : Fin 16) :
    k3_pay389 v762 (ix1 l) = v762 (ix3 (0 : Fin 1) (0 : Fin 1) l) := by
  unfold k3_pay389
  exact cast_16 v762 l

theorem k3_pay390_lane (v767 : Vec F S1x1x16 .f32) (l : Fin 16) :
    k3_pay390 v767 (ix1 l) = v767 (ix3 (0 : Fin 1) (0 : Fin 1) l) := by
  unfold k3_pay390
  exact cast_16 v767 l

theorem k3_pay391_lane (v772 : Vec F S1x1x16 .f32) (l : Fin 16) :
    k3_pay391 v772 (ix1 l) = v772 (ix3 (0 : Fin 1) (0 : Fin 1) l) := by
  unfold k3_pay391
  exact cast_16 v772 l

theorem k3_pay392_lane (v777 : Vec F S1x1x16 .f32) (l : Fin 16) :
    k3_pay392 v777 (ix1 l) = v777 (ix3 (0 : Fin 1) (0 : Fin 1) l) := by
  unfold k3_pay392
  exact cast_16 v777 l

theorem k3_pay393_lane (v782 : Vec F S1x1x16 .f32) (l : Fin 16) :
    k3_pay393 v782 (ix1 l) = v782 (ix3 (0 : Fin 1) (0 : Fin 1) l) := by
  unfold k3_pay393
  exact cast_16 v782 l

theorem k3_pay394_lane (v787 : Vec F S1x1x16 .f32) (l : Fin 16) :
    k3_pay394 v787 (ix1 l) = v787 (ix3 (0 : Fin 1) (0 : Fin 1) l) := by
  unfold k3_pay394
  exact cast_16 v787 l

theorem k3_pay395_lane (v792 : Vec F S1x1x16 .f32) (l : Fin 16) :
    k3_pay395 v792 (ix1 l) = v792 (ix3 (0 : Fin 1) (0 : Fin 1) l) := by
  unfold k3_pay395
  exact cast_16 v792 l

theorem k3_pay396_lane (v797 : Vec F S1x1x16 .f32) (l : Fin 16) :
    k3_pay396 v797 (ix1 l) = v797 (ix3 (0 : Fin 1) (0 : Fin 1) l) := by
  unfold k3_pay396
  exact cast_16 v797 l

theorem k3_pay397_lane (v802 : Vec F S1x1x16 .f32) (l : Fin 16) :
    k3_pay397 v802 (ix1 l) = v802 (ix3 (0 : Fin 1) (0 : Fin 1) l) := by
  unfold k3_pay397
  exact cast_16 v802 l

theorem k3_pay398_lane (v807 : Vec F S1x1x16 .f32) (l : Fin 16) :
    k3_pay398 v807 (ix1 l) = v807 (ix3 (0 : Fin 1) (0 : Fin 1) l) := by
  unfold k3_pay398
  exact cast_16 v807 l

theorem k3_pay399_lane (v812 : Vec F S1x1x16 .f32) (l : Fin 16) :
    k3_pay399 v812 (ix1 l) = v812 (ix3 (0 : Fin 1) (0 : Fin 1) l) := by
  unfold k3_pay399
  exact cast_16 v812 l

theorem k3_pay400_lane (v817 : Vec F S1x1x16 .f32) (l : Fin 16) :
    k3_pay400 v817 (ix1 l) = v817 (ix3 (0 : Fin 1) (0 : Fin 1) l) := by
  unfold k3_pay400
  exact cast_16 v817 l

theorem k3_pay401_lane (v822 : Vec F S1x1x16 .f32) (l : Fin 16) :
    k3_pay401 v822 (ix1 l) = v822 (ix3 (0 : Fin 1) (0 : Fin 1) l) := by
  unfold k3_pay401
  exact cast_16 v822 l

theorem k3_pay402_lane (v827 : Vec F S1x1x16 .f32) (l : Fin 16) :
    k3_pay402 v827 (ix1 l) = v827 (ix3 (0 : Fin 1) (0 : Fin 1) l) := by
  unfold k3_pay402
  exact cast_16 v827 l

theorem k3_pay403_lane (v832 : Vec F S1x1x16 .f32) (l : Fin 16) :
    k3_pay403 v832 (ix1 l) = v832 (ix3 (0 : Fin 1) (0 : Fin 1) l) := by
  unfold k3_pay403
  exact cast_16 v832 l

theorem k3_pay404_lane (v837 : Vec F S1x1x16 .f32) (l : Fin 16) :
    k3_pay404 v837 (ix1 l) = v837 (ix3 (0 : Fin 1) (0 : Fin 1) l) := by
  unfold k3_pay404
  exact cast_16 v837 l

theorem k3_pay405_lane (v842 : Vec F S1x1x16 .f32) (l : Fin 16) :
    k3_pay405 v842 (ix1 l) = v842 (ix3 (0 : Fin 1) (0 : Fin 1) l) := by
  unfold k3_pay405
  exact cast_16 v842 l

theorem k3_pay406_lane (v847 : Vec F S1x1x16 .f32) (l : Fin 16) :
    k3_pay406 v847 (ix1 l) = v847 (ix3 (0 : Fin 1) (0 : Fin 1) l) := by
  unfold k3_pay406
  exact cast_16 v847 l

theorem k3_pay407_lane (v852 : Vec F S1x1x16 .f32) (l : Fin 16) :
    k3_pay407 v852 (ix1 l) = v852 (ix3 (0 : Fin 1) (0 : Fin 1) l) := by
  unfold k3_pay407
  exact cast_16 v852 l

theorem k3_pay408_lane (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (l : Fin 16) :
    k3_pay408 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = FloatOps.addf (FloatOps.addf (FloatOps.addf (FloatOps.addf (FloatOps.addf (v703 (ix1 l)) (v708 (ix1 l))) (FloatOps.addf (v713 (ix1 l)) (v718 (ix1 l)))) (FloatOps.addf (FloatOps.addf (v723 (ix1 l)) (v728 (ix1 l))) (FloatOps.addf (v733 (ix1 l)) (v738 (ix1 l))))) (FloatOps.addf (FloatOps.addf (FloatOps.addf (v743 (ix1 l)) (v748 (ix1 l))) (FloatOps.addf (v753 (ix1 l)) (v758 (ix1 l)))) (FloatOps.addf (FloatOps.addf (v763 (ix1 l)) (v768 (ix1 l))) (FloatOps.addf (v773 (ix1 l)) (v778 (ix1 l)))))) (FloatOps.addf (FloatOps.addf (FloatOps.addf (FloatOps.addf (v783 (ix1 l)) (v788 (ix1 l))) (FloatOps.addf (v793 (ix1 l)) (v798 (ix1 l)))) (FloatOps.addf (FloatOps.addf (v803 (ix1 l)) (v808 (ix1 l))) (FloatOps.addf (v813 (ix1 l)) (v818 (ix1 l))))) (FloatOps.addf (FloatOps.addf (FloatOps.addf (v823 (ix1 l)) (v828 (ix1 l))) (FloatOps.addf (v833 (ix1 l)) (v838 (ix1 l)))) (FloatOps.addf (FloatOps.addf (v843 (ix1 l)) (v848 (ix1 l))) (FloatOps.addf (v853 (ix1 l)) (v857 (ix3 (0 : Fin 1) (0 : Fin 1) l)))))) := by
  unfold k3_pay408
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (cast_16 v857 l)))))

theorem k3_pay408_tree (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (w : Fin 32 → F .f32) (l : Fin 16)
    (h_v703 : v703 (ix1 l) = w 0)
    (h_v708 : v708 (ix1 l) = w 1)
    (h_v713 : v713 (ix1 l) = w 2)
    (h_v718 : v718 (ix1 l) = w 3)
    (h_v723 : v723 (ix1 l) = w 4)
    (h_v728 : v728 (ix1 l) = w 5)
    (h_v733 : v733 (ix1 l) = w 6)
    (h_v738 : v738 (ix1 l) = w 7)
    (h_v743 : v743 (ix1 l) = w 8)
    (h_v748 : v748 (ix1 l) = w 9)
    (h_v753 : v753 (ix1 l) = w 10)
    (h_v758 : v758 (ix1 l) = w 11)
    (h_v763 : v763 (ix1 l) = w 12)
    (h_v768 : v768 (ix1 l) = w 13)
    (h_v773 : v773 (ix1 l) = w 14)
    (h_v778 : v778 (ix1 l) = w 15)
    (h_v783 : v783 (ix1 l) = w 16)
    (h_v788 : v788 (ix1 l) = w 17)
    (h_v793 : v793 (ix1 l) = w 18)
    (h_v798 : v798 (ix1 l) = w 19)
    (h_v803 : v803 (ix1 l) = w 20)
    (h_v808 : v808 (ix1 l) = w 21)
    (h_v813 : v813 (ix1 l) = w 22)
    (h_v818 : v818 (ix1 l) = w 23)
    (h_v823 : v823 (ix1 l) = w 24)
    (h_v828 : v828 (ix1 l) = w 25)
    (h_v833 : v833 (ix1 l) = w 26)
    (h_v838 : v838 (ix1 l) = w 27)
    (h_v843 : v843 (ix1 l) = w 28)
    (h_v848 : v848 (ix1 l) = w 29)
    (h_v853 : v853 (ix1 l) = w 30)
    (h_v857 : v857 (ix3 (0 : Fin 1) (0 : Fin 1) l) = w 31) :
    k3_pay408 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = tree32 w := by
  unfold k3_pay408
  refine (cast_116 _ l).trans ?_
  exact congrArg₂ FloatOps.addf (congrArg₂ FloatOps.addf (congrArg₂ FloatOps.addf (congrArg₂ FloatOps.addf (congrArg₂ FloatOps.addf (h_v703) (h_v708)) (congrArg₂ FloatOps.addf (h_v713) (h_v718))) (congrArg₂ FloatOps.addf (congrArg₂ FloatOps.addf (h_v723) (h_v728)) (congrArg₂ FloatOps.addf (h_v733) (h_v738)))) (congrArg₂ FloatOps.addf (congrArg₂ FloatOps.addf (congrArg₂ FloatOps.addf (h_v743) (h_v748)) (congrArg₂ FloatOps.addf (h_v753) (h_v758))) (congrArg₂ FloatOps.addf (congrArg₂ FloatOps.addf (h_v763) (h_v768)) (congrArg₂ FloatOps.addf (h_v773) (h_v778))))) (congrArg₂ FloatOps.addf (congrArg₂ FloatOps.addf (congrArg₂ FloatOps.addf (congrArg₂ FloatOps.addf (h_v783) (h_v788)) (congrArg₂ FloatOps.addf (h_v793) (h_v798))) (congrArg₂ FloatOps.addf (congrArg₂ FloatOps.addf (h_v803) (h_v808)) (congrArg₂ FloatOps.addf (h_v813) (h_v818)))) (congrArg₂ FloatOps.addf (congrArg₂ FloatOps.addf (congrArg₂ FloatOps.addf (h_v823) (h_v828)) (congrArg₂ FloatOps.addf (h_v833) (h_v838))) (congrArg₂ FloatOps.addf (congrArg₂ FloatOps.addf (h_v843) (h_v848)) (congrArg₂ FloatOps.addf (h_v853) ((cast_16 v857 l).trans h_v857)))))

theorem k3_pay409_lane (v898 : Vec F S1x1x16 .f32) (l : Fin 16) :
    k3_pay409 v898 (ix1 l) = v898 (ix3 (0 : Fin 1) (0 : Fin 1) l) := by
  unfold k3_pay409
  exact cast_16 v898 l

theorem k3_pay410_lane (v903 : Vec F S1x1x16 .f32) (l : Fin 16) :
    k3_pay410 v903 (ix1 l) = v903 (ix3 (0 : Fin 1) (0 : Fin 1) l) := by
  unfold k3_pay410
  exact cast_16 v903 l

theorem k3_pay411_lane (v908 : Vec F S1x1x16 .f32) (l : Fin 16) :
    k3_pay411 v908 (ix1 l) = v908 (ix3 (0 : Fin 1) (0 : Fin 1) l) := by
  unfold k3_pay411
  exact cast_16 v908 l

theorem k3_pay412_lane (v913 : Vec F S1x1x16 .f32) (l : Fin 16) :
    k3_pay412 v913 (ix1 l) = v913 (ix3 (0 : Fin 1) (0 : Fin 1) l) := by
  unfold k3_pay412
  exact cast_16 v913 l

theorem k3_pay413_lane (v918 : Vec F S1x1x16 .f32) (l : Fin 16) :
    k3_pay413 v918 (ix1 l) = v918 (ix3 (0 : Fin 1) (0 : Fin 1) l) := by
  unfold k3_pay413
  exact cast_16 v918 l

theorem k3_pay414_lane (v923 : Vec F S1x1x16 .f32) (l : Fin 16) :
    k3_pay414 v923 (ix1 l) = v923 (ix3 (0 : Fin 1) (0 : Fin 1) l) := by
  unfold k3_pay414
  exact cast_16 v923 l

theorem k3_pay415_lane (v928 : Vec F S1x1x16 .f32) (l : Fin 16) :
    k3_pay415 v928 (ix1 l) = v928 (ix3 (0 : Fin 1) (0 : Fin 1) l) := by
  unfold k3_pay415
  exact cast_16 v928 l

theorem k3_pay416_lane (v933 : Vec F S1x1x16 .f32) (l : Fin 16) :
    k3_pay416 v933 (ix1 l) = v933 (ix3 (0 : Fin 1) (0 : Fin 1) l) := by
  unfold k3_pay416
  exact cast_16 v933 l

theorem k3_pay417_lane (v938 : Vec F S1x1x16 .f32) (l : Fin 16) :
    k3_pay417 v938 (ix1 l) = v938 (ix3 (0 : Fin 1) (0 : Fin 1) l) := by
  unfold k3_pay417
  exact cast_16 v938 l

theorem k3_pay418_lane (v943 : Vec F S1x1x16 .f32) (l : Fin 16) :
    k3_pay418 v943 (ix1 l) = v943 (ix3 (0 : Fin 1) (0 : Fin 1) l) := by
  unfold k3_pay418
  exact cast_16 v943 l

theorem k3_pay419_lane (v948 : Vec F S1x1x16 .f32) (l : Fin 16) :
    k3_pay419 v948 (ix1 l) = v948 (ix3 (0 : Fin 1) (0 : Fin 1) l) := by
  unfold k3_pay419
  exact cast_16 v948 l

theorem k3_pay420_lane (v953 : Vec F S1x1x16 .f32) (l : Fin 16) :
    k3_pay420 v953 (ix1 l) = v953 (ix3 (0 : Fin 1) (0 : Fin 1) l) := by
  unfold k3_pay420
  exact cast_16 v953 l

theorem k3_pay421_lane (v958 : Vec F S1x1x16 .f32) (l : Fin 16) :
    k3_pay421 v958 (ix1 l) = v958 (ix3 (0 : Fin 1) (0 : Fin 1) l) := by
  unfold k3_pay421
  exact cast_16 v958 l

theorem k3_pay422_lane (v963 : Vec F S1x1x16 .f32) (l : Fin 16) :
    k3_pay422 v963 (ix1 l) = v963 (ix3 (0 : Fin 1) (0 : Fin 1) l) := by
  unfold k3_pay422
  exact cast_16 v963 l

theorem k3_pay423_lane (v968 : Vec F S1x1x16 .f32) (l : Fin 16) :
    k3_pay423 v968 (ix1 l) = v968 (ix3 (0 : Fin 1) (0 : Fin 1) l) := by
  unfold k3_pay423
  exact cast_16 v968 l

theorem k3_pay424_lane (v973 : Vec F S1x1x16 .f32) (l : Fin 16) :
    k3_pay424 v973 (ix1 l) = v973 (ix3 (0 : Fin 1) (0 : Fin 1) l) := by
  unfold k3_pay424
  exact cast_16 v973 l

theorem k3_pay425_lane (v978 : Vec F S1x1x16 .f32) (l : Fin 16) :
    k3_pay425 v978 (ix1 l) = v978 (ix3 (0 : Fin 1) (0 : Fin 1) l) := by
  unfold k3_pay425
  exact cast_16 v978 l

theorem k3_pay426_lane (v983 : Vec F S1x1x16 .f32) (l : Fin 16) :
    k3_pay426 v983 (ix1 l) = v983 (ix3 (0 : Fin 1) (0 : Fin 1) l) := by
  unfold k3_pay426
  exact cast_16 v983 l

theorem k3_pay427_lane (v988 : Vec F S1x1x16 .f32) (l : Fin 16) :
    k3_pay427 v988 (ix1 l) = v988 (ix3 (0 : Fin 1) (0 : Fin 1) l) := by
  unfold k3_pay427
  exact cast_16 v988 l

theorem k3_pay428_lane (v993 : Vec F S1x1x16 .f32) (l : Fin 16) :
    k3_pay428 v993 (ix1 l) = v993 (ix3 (0 : Fin 1) (0 : Fin 1) l) := by
  unfold k3_pay428
  exact cast_16 v993 l

theorem k3_pay429_lane (v998 : Vec F S1x1x16 .f32) (l : Fin 16) :
    k3_pay429 v998 (ix1 l) = v998 (ix3 (0 : Fin 1) (0 : Fin 1) l) := by
  unfold k3_pay429
  exact cast_16 v998 l

theorem k3_pay430_lane (v1003 : Vec F S1x1x16 .f32) (l : Fin 16) :
    k3_pay430 v1003 (ix1 l) = v1003 (ix3 (0 : Fin 1) (0 : Fin 1) l) := by
  unfold k3_pay430
  exact cast_16 v1003 l

theorem k3_pay431_lane (v1008 : Vec F S1x1x16 .f32) (l : Fin 16) :
    k3_pay431 v1008 (ix1 l) = v1008 (ix3 (0 : Fin 1) (0 : Fin 1) l) := by
  unfold k3_pay431
  exact cast_16 v1008 l

theorem k3_pay432_lane (v1013 : Vec F S1x1x16 .f32) (l : Fin 16) :
    k3_pay432 v1013 (ix1 l) = v1013 (ix3 (0 : Fin 1) (0 : Fin 1) l) := by
  unfold k3_pay432
  exact cast_16 v1013 l

theorem k3_pay433_lane (v1018 : Vec F S1x1x16 .f32) (l : Fin 16) :
    k3_pay433 v1018 (ix1 l) = v1018 (ix3 (0 : Fin 1) (0 : Fin 1) l) := by
  unfold k3_pay433
  exact cast_16 v1018 l

theorem k3_pay434_lane (v1023 : Vec F S1x1x16 .f32) (l : Fin 16) :
    k3_pay434 v1023 (ix1 l) = v1023 (ix3 (0 : Fin 1) (0 : Fin 1) l) := by
  unfold k3_pay434
  exact cast_16 v1023 l

theorem k3_pay435_lane (v1028 : Vec F S1x1x16 .f32) (l : Fin 16) :
    k3_pay435 v1028 (ix1 l) = v1028 (ix3 (0 : Fin 1) (0 : Fin 1) l) := by
  unfold k3_pay435
  exact cast_16 v1028 l

theorem k3_pay436_lane (v1033 : Vec F S1x1x16 .f32) (l : Fin 16) :
    k3_pay436 v1033 (ix1 l) = v1033 (ix3 (0 : Fin 1) (0 : Fin 1) l) := by
  unfold k3_pay436
  exact cast_16 v1033 l

theorem k3_pay437_lane (v1038 : Vec F S1x1x16 .f32) (l : Fin 16) :
    k3_pay437 v1038 (ix1 l) = v1038 (ix3 (0 : Fin 1) (0 : Fin 1) l) := by
  unfold k3_pay437
  exact cast_16 v1038 l

theorem k3_pay438_lane (v1043 : Vec F S1x1x16 .f32) (l : Fin 16) :
    k3_pay438 v1043 (ix1 l) = v1043 (ix3 (0 : Fin 1) (0 : Fin 1) l) := by
  unfold k3_pay438
  exact cast_16 v1043 l

theorem k3_pay439_lane (v1048 : Vec F S1x1x16 .f32) (l : Fin 16) :
    k3_pay439 v1048 (ix1 l) = v1048 (ix3 (0 : Fin 1) (0 : Fin 1) l) := by
  unfold k3_pay439
  exact cast_16 v1048 l

theorem k3_pay440_lane (v1053 : Vec F S1x1x16 .f32) (l : Fin 16) :
    k3_pay440 v1053 (ix1 l) = v1053 (ix3 (0 : Fin 1) (0 : Fin 1) l) := by
  unfold k3_pay440
  exact cast_16 v1053 l

theorem k3_pay441_lane (v899 : FVec F S16 .f32) (v904 : FVec F S16 .f32) (l : Fin 16) :
    k3_pay441 v899 v904 (ix1 l) = FloatOps.addf (v899 (ix1 l)) (v904 (ix1 l)) := by
  unfold k3_pay441
  exact congrArg₂ FloatOps.addf (rfl) (rfl)

theorem k3_pay442_lane (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (l : Fin 16) :
    k3_pay442 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = FloatOps.addf (FloatOps.addf (FloatOps.addf (FloatOps.addf (v1055 (ix1 l)) (FloatOps.addf (v909 (ix1 l)) (v914 (ix1 l)))) (FloatOps.addf (FloatOps.addf (v919 (ix1 l)) (v924 (ix1 l))) (FloatOps.addf (v929 (ix1 l)) (v934 (ix1 l))))) (FloatOps.addf (FloatOps.addf (FloatOps.addf (v939 (ix1 l)) (v944 (ix1 l))) (FloatOps.addf (v949 (ix1 l)) (v954 (ix1 l)))) (FloatOps.addf (FloatOps.addf (v959 (ix1 l)) (v964 (ix1 l))) (FloatOps.addf (v969 (ix1 l)) (v974 (ix1 l)))))) (FloatOps.addf (FloatOps.addf (FloatOps.addf (FloatOps.addf (v979 (ix1 l)) (v984 (ix1 l))) (FloatOps.addf (v989 (ix1 l)) (v994 (ix1 l)))) (FloatOps.addf (FloatOps.addf (v999 (ix1 l)) (v1004 (ix1 l))) (FloatOps.addf (v1009 (ix1 l)) (v1014 (ix1 l))))) (FloatOps.addf (FloatOps.addf (FloatOps.addf (v1019 (ix1 l)) (v1024 (ix1 l))) (FloatOps.addf (v1029 (ix1 l)) (v1034 (ix1 l)))) (FloatOps.addf (FloatOps.addf (v1039 (ix1 l)) (v1044 (ix1 l))) (FloatOps.addf (v1049 (ix1 l)) (v1054 (ix1 l)))))) := by
  unfold k3_pay442
  refine (cast_116 _ l).trans ?_
  exact congrArg₂ FloatOps.addf (congrArg₂ FloatOps.addf (congrArg₂ FloatOps.addf (congrArg₂ FloatOps.addf (rfl) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k3_pay442_tree (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (w : Fin 32 → F .f32) (l : Fin 16)
    (h_v1055 : v1055 (ix1 l) = FloatOps.addf (w 0) (w 1))
    (h_v909 : v909 (ix1 l) = w 2)
    (h_v914 : v914 (ix1 l) = w 3)
    (h_v919 : v919 (ix1 l) = w 4)
    (h_v924 : v924 (ix1 l) = w 5)
    (h_v929 : v929 (ix1 l) = w 6)
    (h_v934 : v934 (ix1 l) = w 7)
    (h_v939 : v939 (ix1 l) = w 8)
    (h_v944 : v944 (ix1 l) = w 9)
    (h_v949 : v949 (ix1 l) = w 10)
    (h_v954 : v954 (ix1 l) = w 11)
    (h_v959 : v959 (ix1 l) = w 12)
    (h_v964 : v964 (ix1 l) = w 13)
    (h_v969 : v969 (ix1 l) = w 14)
    (h_v974 : v974 (ix1 l) = w 15)
    (h_v979 : v979 (ix1 l) = w 16)
    (h_v984 : v984 (ix1 l) = w 17)
    (h_v989 : v989 (ix1 l) = w 18)
    (h_v994 : v994 (ix1 l) = w 19)
    (h_v999 : v999 (ix1 l) = w 20)
    (h_v1004 : v1004 (ix1 l) = w 21)
    (h_v1009 : v1009 (ix1 l) = w 22)
    (h_v1014 : v1014 (ix1 l) = w 23)
    (h_v1019 : v1019 (ix1 l) = w 24)
    (h_v1024 : v1024 (ix1 l) = w 25)
    (h_v1029 : v1029 (ix1 l) = w 26)
    (h_v1034 : v1034 (ix1 l) = w 27)
    (h_v1039 : v1039 (ix1 l) = w 28)
    (h_v1044 : v1044 (ix1 l) = w 29)
    (h_v1049 : v1049 (ix1 l) = w 30)
    (h_v1054 : v1054 (ix1 l) = w 31) :
    k3_pay442 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = tree32 w := by
  unfold k3_pay442
  refine (cast_116 _ l).trans ?_
  exact congrArg₂ FloatOps.addf (congrArg₂ FloatOps.addf (congrArg₂ FloatOps.addf (congrArg₂ FloatOps.addf (h_v1055) (congrArg₂ FloatOps.addf (h_v909) (h_v914))) (congrArg₂ FloatOps.addf (congrArg₂ FloatOps.addf (h_v919) (h_v924)) (congrArg₂ FloatOps.addf (h_v929) (h_v934)))) (congrArg₂ FloatOps.addf (congrArg₂ FloatOps.addf (congrArg₂ FloatOps.addf (h_v939) (h_v944)) (congrArg₂ FloatOps.addf (h_v949) (h_v954))) (congrArg₂ FloatOps.addf (congrArg₂ FloatOps.addf (h_v959) (h_v964)) (congrArg₂ FloatOps.addf (h_v969) (h_v974))))) (congrArg₂ FloatOps.addf (congrArg₂ FloatOps.addf (congrArg₂ FloatOps.addf (congrArg₂ FloatOps.addf (h_v979) (h_v984)) (congrArg₂ FloatOps.addf (h_v989) (h_v994))) (congrArg₂ FloatOps.addf (congrArg₂ FloatOps.addf (h_v999) (h_v1004)) (congrArg₂ FloatOps.addf (h_v1009) (h_v1014)))) (congrArg₂ FloatOps.addf (congrArg₂ FloatOps.addf (congrArg₂ FloatOps.addf (h_v1019) (h_v1024)) (congrArg₂ FloatOps.addf (h_v1029) (h_v1034))) (congrArg₂ FloatOps.addf (congrArg₂ FloatOps.addf (h_v1039) (h_v1044)) (congrArg₂ FloatOps.addf (h_v1049) (h_v1054)))))

theorem k3_pay443_lane (v1094 : Vec F S1x1x16 .f32) (l : Fin 16) :
    k3_pay443 v1094 (ix1 l) = v1094 (ix3 (0 : Fin 1) (0 : Fin 1) l) := by
  unfold k3_pay443
  exact cast_16 v1094 l

theorem k3_pay444_lane (v1099 : Vec F S1x1x16 .f32) (l : Fin 16) :
    k3_pay444 v1099 (ix1 l) = v1099 (ix3 (0 : Fin 1) (0 : Fin 1) l) := by
  unfold k3_pay444
  exact cast_16 v1099 l

theorem k3_pay445_lane (v1104 : Vec F S1x1x16 .f32) (l : Fin 16) :
    k3_pay445 v1104 (ix1 l) = v1104 (ix3 (0 : Fin 1) (0 : Fin 1) l) := by
  unfold k3_pay445
  exact cast_16 v1104 l

theorem k3_pay446_lane (v1109 : Vec F S1x1x16 .f32) (l : Fin 16) :
    k3_pay446 v1109 (ix1 l) = v1109 (ix3 (0 : Fin 1) (0 : Fin 1) l) := by
  unfold k3_pay446
  exact cast_16 v1109 l

theorem k3_pay447_lane (v1114 : Vec F S1x1x16 .f32) (l : Fin 16) :
    k3_pay447 v1114 (ix1 l) = v1114 (ix3 (0 : Fin 1) (0 : Fin 1) l) := by
  unfold k3_pay447
  exact cast_16 v1114 l

theorem k3_pay448_lane (v1119 : Vec F S1x1x16 .f32) (l : Fin 16) :
    k3_pay448 v1119 (ix1 l) = v1119 (ix3 (0 : Fin 1) (0 : Fin 1) l) := by
  unfold k3_pay448
  exact cast_16 v1119 l

theorem k3_pay449_lane (v1124 : Vec F S1x1x16 .f32) (l : Fin 16) :
    k3_pay449 v1124 (ix1 l) = v1124 (ix3 (0 : Fin 1) (0 : Fin 1) l) := by
  unfold k3_pay449
  exact cast_16 v1124 l

theorem k3_pay450_lane (v1129 : Vec F S1x1x16 .f32) (l : Fin 16) :
    k3_pay450 v1129 (ix1 l) = v1129 (ix3 (0 : Fin 1) (0 : Fin 1) l) := by
  unfold k3_pay450
  exact cast_16 v1129 l

theorem k3_pay451_lane (v1134 : Vec F S1x1x16 .f32) (l : Fin 16) :
    k3_pay451 v1134 (ix1 l) = v1134 (ix3 (0 : Fin 1) (0 : Fin 1) l) := by
  unfold k3_pay451
  exact cast_16 v1134 l

theorem k3_pay452_lane (v1139 : Vec F S1x1x16 .f32) (l : Fin 16) :
    k3_pay452 v1139 (ix1 l) = v1139 (ix3 (0 : Fin 1) (0 : Fin 1) l) := by
  unfold k3_pay452
  exact cast_16 v1139 l

theorem k3_pay453_lane (v1144 : Vec F S1x1x16 .f32) (l : Fin 16) :
    k3_pay453 v1144 (ix1 l) = v1144 (ix3 (0 : Fin 1) (0 : Fin 1) l) := by
  unfold k3_pay453
  exact cast_16 v1144 l

theorem k3_pay454_lane (v1149 : Vec F S1x1x16 .f32) (l : Fin 16) :
    k3_pay454 v1149 (ix1 l) = v1149 (ix3 (0 : Fin 1) (0 : Fin 1) l) := by
  unfold k3_pay454
  exact cast_16 v1149 l

theorem k3_pay455_lane (v1154 : Vec F S1x1x16 .f32) (l : Fin 16) :
    k3_pay455 v1154 (ix1 l) = v1154 (ix3 (0 : Fin 1) (0 : Fin 1) l) := by
  unfold k3_pay455
  exact cast_16 v1154 l

theorem k3_pay456_lane (v1159 : Vec F S1x1x16 .f32) (l : Fin 16) :
    k3_pay456 v1159 (ix1 l) = v1159 (ix3 (0 : Fin 1) (0 : Fin 1) l) := by
  unfold k3_pay456
  exact cast_16 v1159 l

theorem k3_pay457_lane (v1164 : Vec F S1x1x16 .f32) (l : Fin 16) :
    k3_pay457 v1164 (ix1 l) = v1164 (ix3 (0 : Fin 1) (0 : Fin 1) l) := by
  unfold k3_pay457
  exact cast_16 v1164 l

theorem k3_pay458_lane (v1169 : Vec F S1x1x16 .f32) (l : Fin 16) :
    k3_pay458 v1169 (ix1 l) = v1169 (ix3 (0 : Fin 1) (0 : Fin 1) l) := by
  unfold k3_pay458
  exact cast_16 v1169 l

theorem k3_pay459_lane (v1174 : Vec F S1x1x16 .f32) (l : Fin 16) :
    k3_pay459 v1174 (ix1 l) = v1174 (ix3 (0 : Fin 1) (0 : Fin 1) l) := by
  unfold k3_pay459
  exact cast_16 v1174 l

theorem k3_pay460_lane (v1179 : Vec F S1x1x16 .f32) (l : Fin 16) :
    k3_pay460 v1179 (ix1 l) = v1179 (ix3 (0 : Fin 1) (0 : Fin 1) l) := by
  unfold k3_pay460
  exact cast_16 v1179 l

theorem k3_pay461_lane (v1184 : Vec F S1x1x16 .f32) (l : Fin 16) :
    k3_pay461 v1184 (ix1 l) = v1184 (ix3 (0 : Fin 1) (0 : Fin 1) l) := by
  unfold k3_pay461
  exact cast_16 v1184 l

theorem k3_pay462_lane (v1189 : Vec F S1x1x16 .f32) (l : Fin 16) :
    k3_pay462 v1189 (ix1 l) = v1189 (ix3 (0 : Fin 1) (0 : Fin 1) l) := by
  unfold k3_pay462
  exact cast_16 v1189 l

theorem k3_pay463_lane (v1194 : Vec F S1x1x16 .f32) (l : Fin 16) :
    k3_pay463 v1194 (ix1 l) = v1194 (ix3 (0 : Fin 1) (0 : Fin 1) l) := by
  unfold k3_pay463
  exact cast_16 v1194 l

theorem k3_pay464_lane (v1199 : Vec F S1x1x16 .f32) (l : Fin 16) :
    k3_pay464 v1199 (ix1 l) = v1199 (ix3 (0 : Fin 1) (0 : Fin 1) l) := by
  unfold k3_pay464
  exact cast_16 v1199 l

theorem k3_pay465_lane (v1204 : Vec F S1x1x16 .f32) (l : Fin 16) :
    k3_pay465 v1204 (ix1 l) = v1204 (ix3 (0 : Fin 1) (0 : Fin 1) l) := by
  unfold k3_pay465
  exact cast_16 v1204 l

theorem k3_pay466_lane (v1209 : Vec F S1x1x16 .f32) (l : Fin 16) :
    k3_pay466 v1209 (ix1 l) = v1209 (ix3 (0 : Fin 1) (0 : Fin 1) l) := by
  unfold k3_pay466
  exact cast_16 v1209 l

theorem k3_pay467_lane (v1214 : Vec F S1x1x16 .f32) (l : Fin 16) :
    k3_pay467 v1214 (ix1 l) = v1214 (ix3 (0 : Fin 1) (0 : Fin 1) l) := by
  unfold k3_pay467
  exact cast_16 v1214 l

theorem k3_pay468_lane (v1219 : Vec F S1x1x16 .f32) (l : Fin 16) :
    k3_pay468 v1219 (ix1 l) = v1219 (ix3 (0 : Fin 1) (0 : Fin 1) l) := by
  unfold k3_pay468
  exact cast_16 v1219 l

theorem k3_pay469_lane (v1224 : Vec F S1x1x16 .f32) (l : Fin 16) :
    k3_pay469 v1224 (ix1 l) = v1224 (ix3 (0 : Fin 1) (0 : Fin 1) l) := by
  unfold k3_pay469
  exact cast_16 v1224 l

theorem k3_pay470_lane (v1229 : Vec F S1x1x16 .f32) (l : Fin 16) :
    k3_pay470 v1229 (ix1 l) = v1229 (ix3 (0 : Fin 1) (0 : Fin 1) l) := by
  unfold k3_pay470
  exact cast_16 v1229 l

theorem k3_pay471_lane (v1234 : Vec F S1x1x16 .f32) (l : Fin 16) :
    k3_pay471 v1234 (ix1 l) = v1234 (ix3 (0 : Fin 1) (0 : Fin 1) l) := by
  unfold k3_pay471
  exact cast_16 v1234 l

theorem k3_pay472_lane (v1239 : Vec F S1x1x16 .f32) (l : Fin 16) :
    k3_pay472 v1239 (ix1 l) = v1239 (ix3 (0 : Fin 1) (0 : Fin 1) l) := by
  unfold k3_pay472
  exact cast_16 v1239 l

theorem k3_pay473_lane (v1244 : Vec F S1x1x16 .f32) (l : Fin 16) :
    k3_pay473 v1244 (ix1 l) = v1244 (ix3 (0 : Fin 1) (0 : Fin 1) l) := by
  unfold k3_pay473
  exact cast_16 v1244 l

theorem k3_pay474_lane (v1249 : Vec F S1x1x16 .f32) (l : Fin 16) :
    k3_pay474 v1249 (ix1 l) = v1249 (ix3 (0 : Fin 1) (0 : Fin 1) l) := by
  unfold k3_pay474
  exact cast_16 v1249 l

theorem k3_pay475_lane (v1095 : FVec F S16 .f32) (v1100 : FVec F S16 .f32) (l : Fin 16) :
    k3_pay475 v1095 v1100 (ix1 l) = FloatOps.addf (v1095 (ix1 l)) (v1100 (ix1 l)) := by
  unfold k3_pay475
  exact congrArg₂ FloatOps.addf (rfl) (rfl)

theorem k3_pay476_lane (v1105 : FVec F S16 .f32) (v1110 : FVec F S16 .f32) (l : Fin 16) :
    k3_pay476 v1105 v1110 (ix1 l) = FloatOps.addf (v1105 (ix1 l)) (v1110 (ix1 l)) := by
  unfold k3_pay476
  exact congrArg₂ FloatOps.addf (rfl) (rfl)

theorem k3_pay477_lane (v1115 : FVec F S16 .f32) (v1120 : FVec F S16 .f32) (l : Fin 16) :
    k3_pay477 v1115 v1120 (ix1 l) = FloatOps.addf (v1115 (ix1 l)) (v1120 (ix1 l)) := by
  unfold k3_pay477
  exact congrArg₂ FloatOps.addf (rfl) (rfl)

theorem k3_pay478_lane (v1125 : FVec F S16 .f32) (v1130 : FVec F S16 .f32) (l : Fin 16) :
    k3_pay478 v1125 v1130 (ix1 l) = FloatOps.addf (v1125 (ix1 l)) (v1130 (ix1 l)) := by
  unfold k3_pay478
  exact congrArg₂ FloatOps.addf (rfl) (rfl)

theorem k3_pay479_lane (v1135 : FVec F S16 .f32) (v1140 : FVec F S16 .f32) (l : Fin 16) :
    k3_pay479 v1135 v1140 (ix1 l) = FloatOps.addf (v1135 (ix1 l)) (v1140 (ix1 l)) := by
  unfold k3_pay479
  exact congrArg₂ FloatOps.addf (rfl) (rfl)

theorem k3_pay480_lane (v1145 : FVec F S16 .f32) (v1150 : FVec F S16 .f32) (l : Fin 16) :
    k3_pay480 v1145 v1150 (ix1 l) = FloatOps.addf (v1145 (ix1 l)) (v1150 (ix1 l)) := by
  unfold k3_pay480
  exact congrArg₂ FloatOps.addf (rfl) (rfl)

theorem k3_pay481_lane (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (l : Fin 16) :
    k3_pay481 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = FloatOps.addf (FloatOps.addf (FloatOps.addf (FloatOps.addf (v1251 (ix1 l)) (v1252 (ix1 l))) (FloatOps.addf (v1253 (ix1 l)) (v1254 (ix1 l)))) (FloatOps.addf (FloatOps.addf (v1255 (ix1 l)) (v1256 (ix1 l))) (FloatOps.addf (FloatOps.addf (v1155 (ix1 l)) (v1160 (ix1 l))) (FloatOps.addf (v1165 (ix1 l)) (v1170 (ix1 l)))))) (FloatOps.addf (FloatOps.addf (FloatOps.addf (FloatOps.addf (v1175 (ix1 l)) (v1180 (ix1 l))) (FloatOps.addf (v1185 (ix1 l)) (v1190 (ix1 l)))) (FloatOps.addf (FloatOps.addf (v1195 (ix1 l)) (v1200 (ix1 l))) (FloatOps.addf (v1205 (ix1 l)) (v1210 (ix1 l))))) (FloatOps.addf (FloatOps.addf (FloatOps.addf (v1215 (ix1 l)) (v1220 (ix1 l))) (FloatOps.addf (v1225 (ix1 l)) (v1230 (ix1 l)))) (FloatOps.addf (FloatOps.addf (v1235 (ix1 l)) (v1240 (ix1 l))) (FloatOps.addf (v1245 (ix1 l)) (v1250 (ix1 l)))))) := by
  unfold k3_pay481
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k3_pay481_tree (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (w : Fin 32 → F .f32) (l : Fin 16)
    (h_v1251 : v1251 (ix1 l) = FloatOps.addf (w 0) (w 1))
    (h_v1252 : v1252 (ix1 l) = FloatOps.addf (w 2) (w 3))
    (h_v1253 : v1253 (ix1 l) = FloatOps.addf (w 4) (w 5))
    (h_v1254 : v1254 (ix1 l) = FloatOps.addf (w 6) (w 7))
    (h_v1255 : v1255 (ix1 l) = FloatOps.addf (w 8) (w 9))
    (h_v1256 : v1256 (ix1 l) = FloatOps.addf (w 10) (w 11))
    (h_v1155 : v1155 (ix1 l) = w 12)
    (h_v1160 : v1160 (ix1 l) = w 13)
    (h_v1165 : v1165 (ix1 l) = w 14)
    (h_v1170 : v1170 (ix1 l) = w 15)
    (h_v1175 : v1175 (ix1 l) = w 16)
    (h_v1180 : v1180 (ix1 l) = w 17)
    (h_v1185 : v1185 (ix1 l) = w 18)
    (h_v1190 : v1190 (ix1 l) = w 19)
    (h_v1195 : v1195 (ix1 l) = w 20)
    (h_v1200 : v1200 (ix1 l) = w 21)
    (h_v1205 : v1205 (ix1 l) = w 22)
    (h_v1210 : v1210 (ix1 l) = w 23)
    (h_v1215 : v1215 (ix1 l) = w 24)
    (h_v1220 : v1220 (ix1 l) = w 25)
    (h_v1225 : v1225 (ix1 l) = w 26)
    (h_v1230 : v1230 (ix1 l) = w 27)
    (h_v1235 : v1235 (ix1 l) = w 28)
    (h_v1240 : v1240 (ix1 l) = w 29)
    (h_v1245 : v1245 (ix1 l) = w 30)
    (h_v1250 : v1250 (ix1 l) = w 31) :
    k3_pay481 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = tree32 w := by
  unfold k3_pay481
  refine (cast_116 _ l).trans ?_
  exact congrArg₂ FloatOps.addf (congrArg₂ FloatOps.addf (congrArg₂ FloatOps.addf (congrArg₂ FloatOps.addf (h_v1251) (h_v1252)) (congrArg₂ FloatOps.addf (h_v1253) (h_v1254))) (congrArg₂ FloatOps.addf (congrArg₂ FloatOps.addf (h_v1255) (h_v1256)) (congrArg₂ FloatOps.addf (congrArg₂ FloatOps.addf (h_v1155) (h_v1160)) (congrArg₂ FloatOps.addf (h_v1165) (h_v1170))))) (congrArg₂ FloatOps.addf (congrArg₂ FloatOps.addf (congrArg₂ FloatOps.addf (congrArg₂ FloatOps.addf (h_v1175) (h_v1180)) (congrArg₂ FloatOps.addf (h_v1185) (h_v1190))) (congrArg₂ FloatOps.addf (congrArg₂ FloatOps.addf (h_v1195) (h_v1200)) (congrArg₂ FloatOps.addf (h_v1205) (h_v1210)))) (congrArg₂ FloatOps.addf (congrArg₂ FloatOps.addf (congrArg₂ FloatOps.addf (h_v1215) (h_v1220)) (congrArg₂ FloatOps.addf (h_v1225) (h_v1230))) (congrArg₂ FloatOps.addf (congrArg₂ FloatOps.addf (h_v1235) (h_v1240)) (congrArg₂ FloatOps.addf (h_v1245) (h_v1250)))))

theorem k3_pay482_lane (v1290 : Vec F S1x1x16 .f32) (l : Fin 16) :
    k3_pay482 v1290 (ix1 l) = v1290 (ix3 (0 : Fin 1) (0 : Fin 1) l) := by
  unfold k3_pay482
  exact cast_16 v1290 l

theorem k3_pay483_lane (v1295 : Vec F S1x1x16 .f32) (l : Fin 16) :
    k3_pay483 v1295 (ix1 l) = v1295 (ix3 (0 : Fin 1) (0 : Fin 1) l) := by
  unfold k3_pay483
  exact cast_16 v1295 l

theorem k3_pay484_lane (v1300 : Vec F S1x1x16 .f32) (l : Fin 16) :
    k3_pay484 v1300 (ix1 l) = v1300 (ix3 (0 : Fin 1) (0 : Fin 1) l) := by
  unfold k3_pay484
  exact cast_16 v1300 l

theorem k3_pay485_lane (v1305 : Vec F S1x1x16 .f32) (l : Fin 16) :
    k3_pay485 v1305 (ix1 l) = v1305 (ix3 (0 : Fin 1) (0 : Fin 1) l) := by
  unfold k3_pay485
  exact cast_16 v1305 l

theorem k3_pay486_lane (v1310 : Vec F S1x1x16 .f32) (l : Fin 16) :
    k3_pay486 v1310 (ix1 l) = v1310 (ix3 (0 : Fin 1) (0 : Fin 1) l) := by
  unfold k3_pay486
  exact cast_16 v1310 l

theorem k3_pay487_lane (v1315 : Vec F S1x1x16 .f32) (l : Fin 16) :
    k3_pay487 v1315 (ix1 l) = v1315 (ix3 (0 : Fin 1) (0 : Fin 1) l) := by
  unfold k3_pay487
  exact cast_16 v1315 l

theorem k3_pay488_lane (v1320 : Vec F S1x1x16 .f32) (l : Fin 16) :
    k3_pay488 v1320 (ix1 l) = v1320 (ix3 (0 : Fin 1) (0 : Fin 1) l) := by
  unfold k3_pay488
  exact cast_16 v1320 l

theorem k3_pay489_lane (v1325 : Vec F S1x1x16 .f32) (l : Fin 16) :
    k3_pay489 v1325 (ix1 l) = v1325 (ix3 (0 : Fin 1) (0 : Fin 1) l) := by
  unfold k3_pay489
  exact cast_16 v1325 l

theorem k3_pay490_lane (v1330 : Vec F S1x1x16 .f32) (l : Fin 16) :
    k3_pay490 v1330 (ix1 l) = v1330 (ix3 (0 : Fin 1) (0 : Fin 1) l) := by
  unfold k3_pay490
  exact cast_16 v1330 l

theorem k3_pay491_lane (v1335 : Vec F S1x1x16 .f32) (l : Fin 16) :
    k3_pay491 v1335 (ix1 l) = v1335 (ix3 (0 : Fin 1) (0 : Fin 1) l) := by
  unfold k3_pay491
  exact cast_16 v1335 l

theorem k3_pay492_lane (v1340 : Vec F S1x1x16 .f32) (l : Fin 16) :
    k3_pay492 v1340 (ix1 l) = v1340 (ix3 (0 : Fin 1) (0 : Fin 1) l) := by
  unfold k3_pay492
  exact cast_16 v1340 l

theorem k3_pay493_lane (v1345 : Vec F S1x1x16 .f32) (l : Fin 16) :
    k3_pay493 v1345 (ix1 l) = v1345 (ix3 (0 : Fin 1) (0 : Fin 1) l) := by
  unfold k3_pay493
  exact cast_16 v1345 l

theorem k3_pay494_lane (v1350 : Vec F S1x1x16 .f32) (l : Fin 16) :
    k3_pay494 v1350 (ix1 l) = v1350 (ix3 (0 : Fin 1) (0 : Fin 1) l) := by
  unfold k3_pay494
  exact cast_16 v1350 l

theorem k3_pay495_lane (v1355 : Vec F S1x1x16 .f32) (l : Fin 16) :
    k3_pay495 v1355 (ix1 l) = v1355 (ix3 (0 : Fin 1) (0 : Fin 1) l) := by
  unfold k3_pay495
  exact cast_16 v1355 l

theorem k3_pay496_lane (v1360 : Vec F S1x1x16 .f32) (l : Fin 16) :
    k3_pay496 v1360 (ix1 l) = v1360 (ix3 (0 : Fin 1) (0 : Fin 1) l) := by
  unfold k3_pay496
  exact cast_16 v1360 l

theorem k3_pay497_lane (v1365 : Vec F S1x1x16 .f32) (l : Fin 16) :
    k3_pay497 v1365 (ix1 l) = v1365 (ix3 (0 : Fin 1) (0 : Fin 1) l) := by
  unfold k3_pay497
  exact cast_16 v1365 l

theorem k3_pay498_lane (v1370 : Vec F S1x1x16 .f32) (l : Fin 16) :
    k3_pay498 v1370 (ix1 l) = v1370 (ix3 (0 : Fin 1) (0 : Fin 1) l) := by
  unfold k3_pay498
  exact cast_16 v1370 l

theorem k3_pay499_lane (v1375 : Vec F S1x1x16 .f32) (l : Fin 16) :
    k3_pay499 v1375 (ix1 l) = v1375 (ix3 (0 : Fin 1) (0 : Fin 1) l) := by
  unfold k3_pay499
  exact cast_16 v1375 l

theorem k3_pay500_lane (v1380 : Vec F S1x1x16 .f32) (l : Fin 16) :
    k3_pay500 v1380 (ix1 l) = v1380 (ix3 (0 : Fin 1) (0 : Fin 1) l) := by
  unfold k3_pay500
  exact cast_16 v1380 l

theorem k3_pay501_lane (v1385 : Vec F S1x1x16 .f32) (l : Fin 16) :
    k3_pay501 v1385 (ix1 l) = v1385 (ix3 (0 : Fin 1) (0 : Fin 1) l) := by
  unfold k3_pay501
  exact cast_16 v1385 l

theorem k3_pay502_lane (v1390 : Vec F S1x1x16 .f32) (l : Fin 16) :
    k3_pay502 v1390 (ix1 l) = v1390 (ix3 (0 : Fin 1) (0 : Fin 1) l) := by
  unfold k3_pay502
  exact cast_16 v1390 l

theorem k3_pay503_lane (v1395 : Vec F S1x1x16 .f32) (l : Fin 16) :
    k3_pay503 v1395 (ix1 l) = v1395 (ix3 (0 : Fin 1) (0 : Fin 1) l) := by
  unfold k3_pay503
  exact cast_16 v1395 l

theorem k3_pay504_lane (v1400 : Vec F S1x1x16 .f32) (l : Fin 16) :
    k3_pay504 v1400 (ix1 l) = v1400 (ix3 (0 : Fin 1) (0 : Fin 1) l) := by
  unfold k3_pay504
  exact cast_16 v1400 l

theorem k3_pay505_lane (v1405 : Vec F S1x1x16 .f32) (l : Fin 16) :
    k3_pay505 v1405 (ix1 l) = v1405 (ix3 (0 : Fin 1) (0 : Fin 1) l) := by
  unfold k3_pay505
  exact cast_16 v1405 l

theorem k3_pay506_lane (v1410 : Vec F S1x1x16 .f32) (l : Fin 16) :
    k3_pay506 v1410 (ix1 l) = v1410 (ix3 (0 : Fin 1) (0 : Fin 1) l) := by
  unfold k3_pay506
  exact cast_16 v1410 l

theorem k3_pay507_lane (v1415 : Vec F S1x1x16 .f32) (l : Fin 16) :
    k3_pay507 v1415 (ix1 l) = v1415 (ix3 (0 : Fin 1) (0 : Fin 1) l) := by
  unfold k3_pay507
  exact cast_16 v1415 l

theorem k3_pay508_lane (v1420 : Vec F S1x1x16 .f32) (l : Fin 16) :
    k3_pay508 v1420 (ix1 l) = v1420 (ix3 (0 : Fin 1) (0 : Fin 1) l) := by
  unfold k3_pay508
  exact cast_16 v1420 l

theorem k3_pay509_lane (v1425 : Vec F S1x1x16 .f32) (l : Fin 16) :
    k3_pay509 v1425 (ix1 l) = v1425 (ix3 (0 : Fin 1) (0 : Fin 1) l) := by
  unfold k3_pay509
  exact cast_16 v1425 l

theorem k3_pay510_lane (v1430 : Vec F S1x1x16 .f32) (l : Fin 16) :
    k3_pay510 v1430 (ix1 l) = v1430 (ix3 (0 : Fin 1) (0 : Fin 1) l) := by
  unfold k3_pay510
  exact cast_16 v1430 l

theorem k3_pay511_lane (v1435 : Vec F S1x1x16 .f32) (l : Fin 16) :
    k3_pay511 v1435 (ix1 l) = v1435 (ix3 (0 : Fin 1) (0 : Fin 1) l) := by
  unfold k3_pay511
  exact cast_16 v1435 l

theorem k3_pay512_lane (v1440 : Vec F S1x1x16 .f32) (l : Fin 16) :
    k3_pay512 v1440 (ix1 l) = v1440 (ix3 (0 : Fin 1) (0 : Fin 1) l) := by
  unfold k3_pay512
  exact cast_16 v1440 l

theorem k3_pay513_lane (v1445 : Vec F S1x1x16 .f32) (l : Fin 16) :
    k3_pay513 v1445 (ix1 l) = v1445 (ix3 (0 : Fin 1) (0 : Fin 1) l) := by
  unfold k3_pay513
  exact cast_16 v1445 l

theorem k3_pay514_lane (v1291 : FVec F S16 .f32) (v1296 : FVec F S16 .f32) (l : Fin 16) :
    k3_pay514 v1291 v1296 (ix1 l) = FloatOps.addf (v1291 (ix1 l)) (v1296 (ix1 l)) := by
  unfold k3_pay514
  exact congrArg₂ FloatOps.addf (rfl) (rfl)

theorem k3_pay515_lane (v1301 : FVec F S16 .f32) (v1306 : FVec F S16 .f32) (l : Fin 16) :
    k3_pay515 v1301 v1306 (ix1 l) = FloatOps.addf (v1301 (ix1 l)) (v1306 (ix1 l)) := by
  unfold k3_pay515
  exact congrArg₂ FloatOps.addf (rfl) (rfl)

theorem k3_pay516_lane (v1311 : FVec F S16 .f32) (v1316 : FVec F S16 .f32) (l : Fin 16) :
    k3_pay516 v1311 v1316 (ix1 l) = FloatOps.addf (v1311 (ix1 l)) (v1316 (ix1 l)) := by
  unfold k3_pay516
  exact congrArg₂ FloatOps.addf (rfl) (rfl)

theorem k3_pay517_lane (v1321 : FVec F S16 .f32) (v1326 : FVec F S16 .f32) (l : Fin 16) :
    k3_pay517 v1321 v1326 (ix1 l) = FloatOps.addf (v1321 (ix1 l)) (v1326 (ix1 l)) := by
  unfold k3_pay517
  exact congrArg₂ FloatOps.addf (rfl) (rfl)

theorem k3_pay518_lane (v1331 : FVec F S16 .f32) (v1336 : FVec F S16 .f32) (l : Fin 16) :
    k3_pay518 v1331 v1336 (ix1 l) = FloatOps.addf (v1331 (ix1 l)) (v1336 (ix1 l)) := by
  unfold k3_pay518
  exact congrArg₂ FloatOps.addf (rfl) (rfl)

theorem k3_pay519_lane (v1341 : FVec F S16 .f32) (v1346 : FVec F S16 .f32) (l : Fin 16) :
    k3_pay519 v1341 v1346 (ix1 l) = FloatOps.addf (v1341 (ix1 l)) (v1346 (ix1 l)) := by
  unfold k3_pay519
  exact congrArg₂ FloatOps.addf (rfl) (rfl)

theorem k3_pay520_lane (v1351 : FVec F S16 .f32) (v1356 : FVec F S16 .f32) (l : Fin 16) :
    k3_pay520 v1351 v1356 (ix1 l) = FloatOps.addf (v1351 (ix1 l)) (v1356 (ix1 l)) := by
  unfold k3_pay520
  exact congrArg₂ FloatOps.addf (rfl) (rfl)

theorem k3_pay521_lane (v1361 : FVec F S16 .f32) (v1366 : FVec F S16 .f32) (l : Fin 16) :
    k3_pay521 v1361 v1366 (ix1 l) = FloatOps.addf (v1361 (ix1 l)) (v1366 (ix1 l)) := by
  unfold k3_pay521
  exact congrArg₂ FloatOps.addf (rfl) (rfl)

theorem k3_pay522_lane (v1371 : FVec F S16 .f32) (v1376 : FVec F S16 .f32) (l : Fin 16) :
    k3_pay522 v1371 v1376 (ix1 l) = FloatOps.addf (v1371 (ix1 l)) (v1376 (ix1 l)) := by
  unfold k3_pay522
  exact congrArg₂ FloatOps.addf (rfl) (rfl)

theorem k3_pay523_lane (v1381 : FVec F S16 .f32) (v1386 : FVec F S16 .f32) (l : Fin 16) :
    k3_pay523 v1381 v1386 (ix1 l) = FloatOps.addf (v1381 (ix1 l)) (v1386 (ix1 l)) := by
  unfold k3_pay523
  exact congrArg₂ FloatOps.addf (rfl) (rfl)

theorem k3_pay524_lane (v1391 : FVec F S16 .f32) (v1396 : FVec F S16 .f32) (l : Fin 16) :
    k3_pay524 v1391 v1396 (ix1 l) = FloatOps.addf (v1391 (ix1 l)) (v1396 (ix1 l)) := by
  unfold k3_pay524
  exact congrArg₂ FloatOps.addf (rfl) (rfl)

theorem k3_pay525_lane (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (l : Fin 16) :
    k3_pay525 v1401 v1406 v1411 v1416 v1421 v1426 v1431 v1436 v1441 v1446 v1447 v1448 v1449 v1450 v1451 v1452 v1453 v1454 v1455 v1456 v1457 (ix3 (0 : Fin 1) (0 : Fin 1) l) = FloatOps.addf (FloatOps.addf (FloatOps.addf (FloatOps.addf (v1447 (ix1 l)) (v1448 (ix1 l))) (FloatOps.addf (v1449 (ix1 l)) (v1450 (ix1 l)))) (FloatOps.addf (FloatOps.addf (v1451 (ix1 l)) (v1452 (ix1 l))) (FloatOps.addf (v1453 (ix1 l)) (v1454 (ix1 l))))) (FloatOps.addf (FloatOps.addf (FloatOps.addf (v1455 (ix1 l)) (v1456 (ix1 l))) (FloatOps.addf (v1457 (ix1 l)) (FloatOps.addf (v1401 (ix1 l)) (v1406 (ix1 l))))) (FloatOps.addf (FloatOps.addf (FloatOps.addf (v1411 (ix1 l)) (v1416 (ix1 l))) (FloatOps.addf (v1421 (ix1 l)) (v1426 (ix1 l)))) (FloatOps.addf (FloatOps.addf (v1431 (ix1 l)) (v1436 (ix1 l))) (FloatOps.addf (v1441 (ix1 l)) (v1446 (ix1 l)))))) := by
  unfold k3_pay525
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k3_pay525_tree (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (w : Fin 32 → F .f32) (l : Fin 16)
    (h_v1447 : v1447 (ix1 l) = FloatOps.addf (w 0) (w 1))
    (h_v1448 : v1448 (ix1 l) = FloatOps.addf (w 2) (w 3))
    (h_v1449 : v1449 (ix1 l) = FloatOps.addf (w 4) (w 5))
    (h_v1450 : v1450 (ix1 l) = FloatOps.addf (w 6) (w 7))
    (h_v1451 : v1451 (ix1 l) = FloatOps.addf (w 8) (w 9))
    (h_v1452 : v1452 (ix1 l) = FloatOps.addf (w 10) (w 11))
    (h_v1453 : v1453 (ix1 l) = FloatOps.addf (w 12) (w 13))
    (h_v1454 : v1454 (ix1 l) = FloatOps.addf (w 14) (w 15))
    (h_v1455 : v1455 (ix1 l) = FloatOps.addf (w 16) (w 17))
    (h_v1456 : v1456 (ix1 l) = FloatOps.addf (w 18) (w 19))
    (h_v1457 : v1457 (ix1 l) = FloatOps.addf (w 20) (w 21))
    (h_v1401 : v1401 (ix1 l) = w 22)
    (h_v1406 : v1406 (ix1 l) = w 23)
    (h_v1411 : v1411 (ix1 l) = w 24)
    (h_v1416 : v1416 (ix1 l) = w 25)
    (h_v1421 : v1421 (ix1 l) = w 26)
    (h_v1426 : v1426 (ix1 l) = w 27)
    (h_v1431 : v1431 (ix1 l) = w 28)
    (h_v1436 : v1436 (ix1 l) = w 29)
    (h_v1441 : v1441 (ix1 l) = w 30)
    (h_v1446 : v1446 (ix1 l) = w 31) :
    k3_pay525 v1401 v1406 v1411 v1416 v1421 v1426 v1431 v1436 v1441 v1446 v1447 v1448 v1449 v1450 v1451 v1452 v1453 v1454 v1455 v1456 v1457 (ix3 (0 : Fin 1) (0 : Fin 1) l) = tree32 w := by
  unfold k3_pay525
  refine (cast_116 _ l).trans ?_
  exact congrArg₂ FloatOps.addf (congrArg₂ FloatOps.addf (congrArg₂ FloatOps.addf (congrArg₂ FloatOps.addf (h_v1447) (h_v1448)) (congrArg₂ FloatOps.addf (h_v1449) (h_v1450))) (congrArg₂ FloatOps.addf (congrArg₂ FloatOps.addf (h_v1451) (h_v1452)) (congrArg₂ FloatOps.addf (h_v1453) (h_v1454)))) (congrArg₂ FloatOps.addf (congrArg₂ FloatOps.addf (congrArg₂ FloatOps.addf (h_v1455) (h_v1456)) (congrArg₂ FloatOps.addf (h_v1457) (congrArg₂ FloatOps.addf (h_v1401) (h_v1406)))) (congrArg₂ FloatOps.addf (congrArg₂ FloatOps.addf (congrArg₂ FloatOps.addf (h_v1411) (h_v1416)) (congrArg₂ FloatOps.addf (h_v1421) (h_v1426))) (congrArg₂ FloatOps.addf (congrArg₂ FloatOps.addf (h_v1431) (h_v1436)) (congrArg₂ FloatOps.addf (h_v1441) (h_v1446)))))

theorem k3_pay526_lane (v1486 : Vec F S1x1x16 .f32) (l : Fin 16) :
    k3_pay526 v1486 (ix1 l) = v1486 (ix3 (0 : Fin 1) (0 : Fin 1) l) := by
  unfold k3_pay526
  exact cast_16 v1486 l

theorem k3_pay527_lane (v1491 : Vec F S1x1x16 .f32) (l : Fin 16) :
    k3_pay527 v1491 (ix1 l) = v1491 (ix3 (0 : Fin 1) (0 : Fin 1) l) := by
  unfold k3_pay527
  exact cast_16 v1491 l

theorem k3_pay528_lane (v1496 : Vec F S1x1x16 .f32) (l : Fin 16) :
    k3_pay528 v1496 (ix1 l) = v1496 (ix3 (0 : Fin 1) (0 : Fin 1) l) := by
  unfold k3_pay528
  exact cast_16 v1496 l

theorem k3_pay529_lane (v1501 : Vec F S1x1x16 .f32) (l : Fin 16) :
    k3_pay529 v1501 (ix1 l) = v1501 (ix3 (0 : Fin 1) (0 : Fin 1) l) := by
  unfold k3_pay529
  exact cast_16 v1501 l

theorem k3_pay530_lane (v1506 : Vec F S1x1x16 .f32) (l : Fin 16) :
    k3_pay530 v1506 (ix1 l) = v1506 (ix3 (0 : Fin 1) (0 : Fin 1) l) := by
  unfold k3_pay530
  exact cast_16 v1506 l

theorem k3_pay531_lane (v1511 : Vec F S1x1x16 .f32) (l : Fin 16) :
    k3_pay531 v1511 (ix1 l) = v1511 (ix3 (0 : Fin 1) (0 : Fin 1) l) := by
  unfold k3_pay531
  exact cast_16 v1511 l

theorem k3_pay532_lane (v1516 : Vec F S1x1x16 .f32) (l : Fin 16) :
    k3_pay532 v1516 (ix1 l) = v1516 (ix3 (0 : Fin 1) (0 : Fin 1) l) := by
  unfold k3_pay532
  exact cast_16 v1516 l

theorem k3_pay533_lane (v1521 : Vec F S1x1x16 .f32) (l : Fin 16) :
    k3_pay533 v1521 (ix1 l) = v1521 (ix3 (0 : Fin 1) (0 : Fin 1) l) := by
  unfold k3_pay533
  exact cast_16 v1521 l

theorem k3_pay534_lane (v1526 : Vec F S1x1x16 .f32) (l : Fin 16) :
    k3_pay534 v1526 (ix1 l) = v1526 (ix3 (0 : Fin 1) (0 : Fin 1) l) := by
  unfold k3_pay534
  exact cast_16 v1526 l

theorem k3_pay535_lane (v1531 : Vec F S1x1x16 .f32) (l : Fin 16) :
    k3_pay535 v1531 (ix1 l) = v1531 (ix3 (0 : Fin 1) (0 : Fin 1) l) := by
  unfold k3_pay535
  exact cast_16 v1531 l

theorem k3_pay536_lane (v1536 : Vec F S1x1x16 .f32) (l : Fin 16) :
    k3_pay536 v1536 (ix1 l) = v1536 (ix3 (0 : Fin 1) (0 : Fin 1) l) := by
  unfold k3_pay536
  exact cast_16 v1536 l

theorem k3_pay537_lane (v1541 : Vec F S1x1x16 .f32) (l : Fin 16) :
    k3_pay537 v1541 (ix1 l) = v1541 (ix3 (0 : Fin 1) (0 : Fin 1) l) := by
  unfold k3_pay537
  exact cast_16 v1541 l

theorem k3_pay538_lane (v1546 : Vec F S1x1x16 .f32) (l : Fin 16) :
    k3_pay538 v1546 (ix1 l) = v1546 (ix3 (0 : Fin 1) (0 : Fin 1) l) := by
  unfold k3_pay538
  exact cast_16 v1546 l

theorem k3_pay539_lane (v1551 : Vec F S1x1x16 .f32) (l : Fin 16) :
    k3_pay539 v1551 (ix1 l) = v1551 (ix3 (0 : Fin 1) (0 : Fin 1) l) := by
  unfold k3_pay539
  exact cast_16 v1551 l

theorem k3_pay540_lane (v1556 : Vec F S1x1x16 .f32) (l : Fin 16) :
    k3_pay540 v1556 (ix1 l) = v1556 (ix3 (0 : Fin 1) (0 : Fin 1) l) := by
  unfold k3_pay540
  exact cast_16 v1556 l

theorem k3_pay541_lane (v1561 : Vec F S1x1x16 .f32) (l : Fin 16) :
    k3_pay541 v1561 (ix1 l) = v1561 (ix3 (0 : Fin 1) (0 : Fin 1) l) := by
  unfold k3_pay541
  exact cast_16 v1561 l

theorem k3_pay542_lane (v1566 : Vec F S1x1x16 .f32) (l : Fin 16) :
    k3_pay542 v1566 (ix1 l) = v1566 (ix3 (0 : Fin 1) (0 : Fin 1) l) := by
  unfold k3_pay542
  exact cast_16 v1566 l

theorem k3_pay543_lane (v1571 : Vec F S1x1x16 .f32) (l : Fin 16) :
    k3_pay543 v1571 (ix1 l) = v1571 (ix3 (0 : Fin 1) (0 : Fin 1) l) := by
  unfold k3_pay543
  exact cast_16 v1571 l

theorem k3_pay544_lane (v1576 : Vec F S1x1x16 .f32) (l : Fin 16) :
    k3_pay544 v1576 (ix1 l) = v1576 (ix3 (0 : Fin 1) (0 : Fin 1) l) := by
  unfold k3_pay544
  exact cast_16 v1576 l

theorem k3_pay545_lane (v1581 : Vec F S1x1x16 .f32) (l : Fin 16) :
    k3_pay545 v1581 (ix1 l) = v1581 (ix3 (0 : Fin 1) (0 : Fin 1) l) := by
  unfold k3_pay545
  exact cast_16 v1581 l

theorem k3_pay546_lane (v1586 : Vec F S1x1x16 .f32) (l : Fin 16) :
    k3_pay546 v1586 (ix1 l) = v1586 (ix3 (0 : Fin 1) (0 : Fin 1) l) := by
  unfold k3_pay546
  exact cast_16 v1586 l

theorem k3_pay547_lane (v1591 : Vec F S1x1x16 .f32) (l : Fin 16) :
    k3_pay547 v1591 (ix1 l) = v1591 (ix3 (0 : Fin 1) (0 : Fin 1) l) := by
  unfold k3_pay547
  exact cast_16 v1591 l

theorem k3_pay548_lane (v1596 : Vec F S1x1x16 .f32) (l : Fin 16) :
    k3_pay548 v1596 (ix1 l) = v1596 (ix3 (0 : Fin 1) (0 : Fin 1) l) := by
  unfold k3_pay548
  exact cast_16 v1596 l

theorem k3_pay549_lane (v1601 : Vec F S1x1x16 .f32) (l : Fin 16) :
    k3_pay549 v1601 (ix1 l) = v1601 (ix3 (0 : Fin 1) (0 : Fin 1) l) := by
  unfold k3_pay549
  exact cast_16 v1601 l

theorem k3_pay550_lane (v1606 : Vec F S1x1x16 .f32) (l : Fin 16) :
    k3_pay550 v1606 (ix1 l) = v1606 (ix3 (0 : Fin 1) (0 : Fin 1) l) := by
  unfold k3_pay550
  exact cast_16 v1606 l

theorem k3_pay551_lane (v1611 : Vec F S1x1x16 .f32) (l : Fin 16) :
    k3_pay551 v1611 (ix1 l) = v1611 (ix3 (0 : Fin 1) (0 : Fin 1) l) := by
  unfold k3_pay551
  exact cast_16 v1611 l

theorem k3_pay552_lane (v1487 : FVec F S16 .f32) (v1492 : FVec F S16 .f32) (l : Fin 16) :
    k3_pay552 v1487 v1492 (ix1 l) = FloatOps.addf (v1487 (ix1 l)) (v1492 (ix1 l)) := by
  unfold k3_pay552
  exact congrArg₂ FloatOps.addf (rfl) (rfl)

theorem k3_pay553_lane (v1497 : FVec F S16 .f32) (v1502 : FVec F S16 .f32) (l : Fin 16) :
    k3_pay553 v1497 v1502 (ix1 l) = FloatOps.addf (v1497 (ix1 l)) (v1502 (ix1 l)) := by
  unfold k3_pay553
  exact congrArg₂ FloatOps.addf (rfl) (rfl)

theorem k3_pay554_lane (v1507 : FVec F S16 .f32) (v1512 : FVec F S16 .f32) (l : Fin 16) :
    k3_pay554 v1507 v1512 (ix1 l) = FloatOps.addf (v1507 (ix1 l)) (v1512 (ix1 l)) := by
  unfold k3_pay554
  exact congrArg₂ FloatOps.addf (rfl) (rfl)

theorem k3_pay555_lane (v1517 : FVec F S16 .f32) (v1522 : FVec F S16 .f32) (l : Fin 16) :
    k3_pay555 v1517 v1522 (ix1 l) = FloatOps.addf (v1517 (ix1 l)) (v1522 (ix1 l)) := by
  unfold k3_pay555
  exact congrArg₂ FloatOps.addf (rfl) (rfl)

theorem k3_pay556_lane (v1527 : FVec F S16 .f32) (v1532 : FVec F S16 .f32) (l : Fin 16) :
    k3_pay556 v1527 v1532 (ix1 l) = FloatOps.addf (v1527 (ix1 l)) (v1532 (ix1 l)) := by
  unfold k3_pay556
  exact congrArg₂ FloatOps.addf (rfl) (rfl)

theorem k3_pay557_lane (v1537 : FVec F S16 .f32) (v1542 : FVec F S16 .f32) (l : Fin 16) :
    k3_pay557 v1537 v1542 (ix1 l) = FloatOps.addf (v1537 (ix1 l)) (v1542 (ix1 l)) := by
  unfold k3_pay557
  exact congrArg₂ FloatOps.addf (rfl) (rfl)

theorem k3_pay558_lane (v1547 : FVec F S16 .f32) (v1552 : FVec F S16 .f32) (l : Fin 16) :
    k3_pay558 v1547 v1552 (ix1 l) = FloatOps.addf (v1547 (ix1 l)) (v1552 (ix1 l)) := by
  unfold k3_pay558
  exact congrArg₂ FloatOps.addf (rfl) (rfl)

theorem k3_pay559_lane (v1557 : FVec F S16 .f32) (v1562 : FVec F S16 .f32) (l : Fin 16) :
    k3_pay559 v1557 v1562 (ix1 l) = FloatOps.addf (v1557 (ix1 l)) (v1562 (ix1 l)) := by
  unfold k3_pay559
  exact congrArg₂ FloatOps.addf (rfl) (rfl)

theorem k3_pay560_lane (v1567 : FVec F S16 .f32) (v1572 : FVec F S16 .f32) (l : Fin 16) :
    k3_pay560 v1567 v1572 (ix1 l) = FloatOps.addf (v1567 (ix1 l)) (v1572 (ix1 l)) := by
  unfold k3_pay560
  exact congrArg₂ FloatOps.addf (rfl) (rfl)

theorem k3_pay561_lane (v1577 : FVec F S16 .f32) (v1582 : FVec F S16 .f32) (l : Fin 16) :
    k3_pay561 v1577 v1582 (ix1 l) = FloatOps.addf (v1577 (ix1 l)) (v1582 (ix1 l)) := by
  unfold k3_pay561
  exact congrArg₂ FloatOps.addf (rfl) (rfl)

theorem k3_pay562_lane (v1587 : FVec F S16 .f32) (v1592 : FVec F S16 .f32) (l : Fin 16) :
    k3_pay562 v1587 v1592 (ix1 l) = FloatOps.addf (v1587 (ix1 l)) (v1592 (ix1 l)) := by
  unfold k3_pay562
  exact congrArg₂ FloatOps.addf (rfl) (rfl)

theorem k3_pay563_lane (v1597 : FVec F S16 .f32) (v1602 : FVec F S16 .f32) (l : Fin 16) :
    k3_pay563 v1597 v1602 (ix1 l) = FloatOps.addf (v1597 (ix1 l)) (v1602 (ix1 l)) := by
  unfold k3_pay563
  exact congrArg₂ FloatOps.addf (rfl) (rfl)

theorem k3_pay564_lane (v1607 : FVec F S16 .f32) (v1612 : FVec F S16 .f32) (l : Fin 16) :
    k3_pay564 v1607 v1612 (ix1 l) = FloatOps.addf (v1607 (ix1 l)) (v1612 (ix1 l)) := by
  unfold k3_pay564
  exact congrArg₂ FloatOps.addf (rfl) (rfl)

theorem k3_pay565_lane (v1616 : Vec F S1x1x16 .f32) (v1621 : Vec F S1x1x16 .f32) (l : Fin 16) :
    k3_pay565 v1616 v1621 (ix1 l) = FloatOps.addf (v1616 (ix3 (0 : Fin 1) (0 : Fin 1) l)) (v1621 (ix3 (0 : Fin 1) (0 : Fin 1) l)) := by
  unfold k3_pay565
  exact congrArg₂ FloatOps.addf (cast_16 v1616 l) (cast_16 v1621 l)

theorem k3_pay566_lane (v1626 : Vec F S1x1x16 .f32) (v1631 : Vec F S1x1x16 .f32) (l : Fin 16) :
    k3_pay566 v1626 v1631 (ix1 l) = FloatOps.addf (v1626 (ix3 (0 : Fin 1) (0 : Fin 1) l)) (v1631 (ix3 (0 : Fin 1) (0 : Fin 1) l)) := by
  unfold k3_pay566
  exact congrArg₂ FloatOps.addf (cast_16 v1626 l) (cast_16 v1631 l)

theorem k3_pay567_lane (v1636 : Vec F S1x1x16 .f32) (v1641 : Vec F S1x1x16 .f32) (l : Fin 16) :
    k3_pay567 v1636 v1641 (ix1 l) = FloatOps.addf (v1636 (ix3 (0 : Fin 1) (0 : Fin 1) l)) (v1641 (ix3 (0 : Fin 1) (0 : Fin 1) l)) := by
  unfold k3_pay567
  exact congrArg₂ FloatOps.addf (cast_16 v1636 l) (cast_16 v1641 l)

theorem k3_pay568_lane (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (l : Fin 16) :
    k3_pay568 v1643 v1644 v1645 v1646 v1647 v1648 v1649 v1650 v1651 v1652 v1653 v1654 v1655 v1656 v1657 v1658 (ix1 l) = FloatOps.addf (FloatOps.addf (FloatOps.addf (FloatOps.addf (v1643 (ix1 l)) (v1644 (ix1 l))) (FloatOps.addf (v1645 (ix1 l)) (v1646 (ix1 l)))) (FloatOps.addf (FloatOps.addf (v1647 (ix1 l)) (v1648 (ix1 l))) (FloatOps.addf (v1649 (ix1 l)) (v1650 (ix1 l))))) (FloatOps.addf (FloatOps.addf (FloatOps.addf (v1651 (ix1 l)) (v1652 (ix1 l))) (FloatOps.addf (v1653 (ix1 l)) (v1654 (ix1 l)))) (FloatOps.addf (FloatOps.addf (v1655 (ix1 l)) (v1656 (ix1 l))) (FloatOps.addf (v1657 (ix1 l)) (v1658 (ix1 l))))) := by
  unfold k3_pay568
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))

theorem k3_pay568_tree (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (w : Fin 32 → F .f32) (l : Fin 16)
    (h_v1643 : v1643 (ix1 l) = FloatOps.addf (w 0) (w 1))
    (h_v1644 : v1644 (ix1 l) = FloatOps.addf (w 2) (w 3))
    (h_v1645 : v1645 (ix1 l) = FloatOps.addf (w 4) (w 5))
    (h_v1646 : v1646 (ix1 l) = FloatOps.addf (w 6) (w 7))
    (h_v1647 : v1647 (ix1 l) = FloatOps.addf (w 8) (w 9))
    (h_v1648 : v1648 (ix1 l) = FloatOps.addf (w 10) (w 11))
    (h_v1649 : v1649 (ix1 l) = FloatOps.addf (w 12) (w 13))
    (h_v1650 : v1650 (ix1 l) = FloatOps.addf (w 14) (w 15))
    (h_v1651 : v1651 (ix1 l) = FloatOps.addf (w 16) (w 17))
    (h_v1652 : v1652 (ix1 l) = FloatOps.addf (w 18) (w 19))
    (h_v1653 : v1653 (ix1 l) = FloatOps.addf (w 20) (w 21))
    (h_v1654 : v1654 (ix1 l) = FloatOps.addf (w 22) (w 23))
    (h_v1655 : v1655 (ix1 l) = FloatOps.addf (w 24) (w 25))
    (h_v1656 : v1656 (ix1 l) = FloatOps.addf (w 26) (w 27))
    (h_v1657 : v1657 (ix1 l) = FloatOps.addf (w 28) (w 29))
    (h_v1658 : v1658 (ix1 l) = FloatOps.addf (w 30) (w 31)) :
    k3_pay568 v1643 v1644 v1645 v1646 v1647 v1648 v1649 v1650 v1651 v1652 v1653 v1654 v1655 v1656 v1657 v1658 (ix1 l) = tree32 w := by
  unfold k3_pay568
  exact congrArg₂ FloatOps.addf (congrArg₂ FloatOps.addf (congrArg₂ FloatOps.addf (congrArg₂ FloatOps.addf (h_v1643) (h_v1644)) (congrArg₂ FloatOps.addf (h_v1645) (h_v1646))) (congrArg₂ FloatOps.addf (congrArg₂ FloatOps.addf (h_v1647) (h_v1648)) (congrArg₂ FloatOps.addf (h_v1649) (h_v1650)))) (congrArg₂ FloatOps.addf (congrArg₂ FloatOps.addf (congrArg₂ FloatOps.addf (h_v1651) (h_v1652)) (congrArg₂ FloatOps.addf (h_v1653) (h_v1654))) (congrArg₂ FloatOps.addf (congrArg₂ FloatOps.addf (h_v1655) (h_v1656)) (congrArg₂ FloatOps.addf (h_v1657) (h_v1658))))

theorem k3_pay569_lane (v1673 : FVec F S16 .f32) (l : Fin 16) :
    k3_pay569 v1673 (ix3 (0 : Fin 1) (0 : Fin 1) l) = v1673 (ix1 l) := by
  unfold k3_pay569
  exact cast_116 v1673 l

theorem k3_pay570_lane (v1673 : FVec F S16 .f32) (l : Fin 16) :
    k3_pay570 v1673 (ix3 (0 : Fin 1) (0 : Fin 1) l) = v1673 (ix1 l) := by
  unfold k3_pay570
  exact cast_116 v1673 l

end Cert.Proof.KB

end
-- ==== Proof.ScTree0C1K.lean ====
import proofs.«205366_g3083786518796_cont_9to1_852_38_alg».proof.Proof.ScTree3K

/-!
# The second SparseCore kernel's summing payloads

The second kernel is the first kernel's text printed again, so its payloads have the same lane and tree lemmas.
-/
-- ==== Proof.BodyInnerC1K.lean ====
import proofs.«205366_g3083786518796_cont_9to1_852_38_alg».proof.Proof.BodyLemmasC1K
import proofs.«205366_g3083786518796_cont_9to1_852_38_alg».proof.Proof.ScTree0C1K
import Idealize.ShloMosaic.Lib.Writes
import Idealize.ShloMosaic.Lib.ValueIdx

noncomputable section

/-!
# One trip of a tile's inner loop, with what it stores named

A trip of the inner loop takes one row `r` of one slot of the output scratch: for each of the eight groups of 16
lanes it loads the 32 gathered rows `32·r … 32·r + 31` of the same slot of the row scratch at those lanes, adds them in
five levels of pairwise sums, and stores the 16 sums.  After the trip the output scratch holds, at row `r` of that
slot, lane by lane the balanced tree of the 32 gathered numbers, and is unchanged everywhere else; the row scratch is
only read.
-/

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KB (tree32)

variable {F : FTy → Type}

variable [FloatOps F]
variable {U : Type} [URA U] [CountersIn U]

local notation "𝕄" => MT nD τ sig (HIx 3) (Elt F) ℕ U ℕ
local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

section Inner
variable (d : Dev nD) (L : grid3.Coords)

theorem trips_t2 : k3_t2_loop.trips = 4 := by decide
theorem trips_t3 : k3_t3_loop.trips = 4 := by decide
theorem k2_lt (k2 : Fin k3_t2_loop.trips) : k2.val < 4 := lt_of_lt_of_eq k2.isLt trips_t2
theorem k3_lt (k3 : Fin k3_t3_loop.trips) : k3.val < 4 := lt_of_lt_of_eq k3.isLt trips_t3

/-- An index of a [1,1,16] block is its lane. -/
theorem exists_lane (x : S1x1x16.Idx) : ∃ l : Fin 16, x = ix3 (0 : Fin 1) (0 : Fin 1) l := by
  refine ⟨x 2, ?_⟩
  funext a
  match a with
  | ⟨0, _⟩ => exact (Subsingleton.elim (α := Fin 1) _ _)
  | ⟨1, _⟩ => exact (Subsingleton.elim (α := Fin 1) _ _)
  | ⟨2, _⟩ => rfl

/-- A 16-lane load of the row scratch at slot `s`, row `R`, lanes from `c`: its lane `l` is the scratch's entry there. -/
theorem ld_lane (o : Fin 3 → Nat) (s : Fin 2) (R c : Nat) (hR : R < 128) (hc : c + 16 ≤ 128) (ho : o = ![s.val, R, c])
    (h : ∀ a, o a + S1x1x16.size a ≤ S2x128x128.size a) (fr : Buf (Elt F) ((V d (cV L) (jV L)).loc cc3_scratch1)) (l : Fin 16) :
    View.readAt (Elt F) (Memref.whole cc3_scratch1).view (Rect.unit (s := S2x128x128) o S1x1x16.size h).toLoadRect fr
        (ix3 (0 : Fin 1) (0 : Fin 1) l)
      = fr (ix3 s (⟨R, hR⟩ : Fin 128) (⟨c + l.val, by omega⟩ : Fin 128)) := by
  subst ho
  rw [View.readAt_apply]
  show fr ((Rect.unit (s := S2x128x128) ![s.val, R, c] S1x1x16.size h).toLoadRect.idx (ix3 (0 : Fin 1) (0 : Fin 1) l)) = _
  refine congrArg fr ?_
  funext a; apply Fin.ext
  match a with
  | ⟨0, _⟩ => show s.val + 1 * 0 = s.val; omega
  | ⟨1, _⟩ => show R + 1 * 0 = R; omega
  | ⟨2, _⟩ => show c + 1 * l.val = c + l.val; omega

/-- What row `r` of slot `s` of the output scratch is to hold at an index `y` of that row: the tree of the 32 gathered
    numbers, rows `32·r …` of slot `s` of the row scratch at `y`'s lane. -/
def scrSum (s : Fin 2) (fr : Buf (Elt F) ((V d (cV L) (jV L)).loc cc3_scratch1)) (r : Nat) (hr : r < 4) (y : S2x4x128.Idx) : F .f32 :=
  tree32 fun k : Fin 32 => fr (ix3 s (⟨32 * r + k.val, by omega⟩ : Fin 128) (y 2))

set_option maxHeartbeats 4000000 in
/-- Trip `kk` of slot 0's inner loop: the row scratch is only read; the output scratch ends with row `kk` of
    slot 0 at the trees of the 32 gathered rows, lane by lane, and is unchanged off that row.  (The contents are read
    through the whole buffer's view, `View.read … f = f`.) -/
theorem inner_trip0 (k : Fin k3_t1_loop.trips) (kk : Fin k3_t2_loop.trips)
    (fr : Buf (Elt F) ((V d (cV L) (jV L)).loc cc3_scratch1)) (fob : Buf (Elt F) ((V d (cV L) (jV L)).loc cc3_scratch2))
    (v2 : BitVec 32) :
    iprop(((rwV).view.loc (V d (cV L) (jV L)) ↦[Finset.univ \ (rwK1).view.set]{fullShare} fr)
      ∗ ((obV).view.loc (V d (cV L) (jV L)) ↦[Finset.univ \ (obK1).view.set]{fullShare} fob))
      ⊢ (wp frame (wpE (defs₀ (F := F)) 𝒱₀ (V d (cV L) (jV L)) none) Set.univ
          (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k kk ())
          fun _ => iprop(((rwV).view.loc (V d (cV L) (jV L)) ↦[Finset.univ \ (rwK1).view.set]{fullShare} fr)
            ∗ ∃ fob'' : Buf (Elt F) ((V d (cV L) (jV L)).loc cc3_scratch2), ((obV).view.loc (V d (cV L) (jV L)) ↦[Finset.univ \ (obK1).view.set]{fullShare} fob'')
              ∗ ⌜(∀ (g : Fin 8) (l : Fin 16), View.read (Elt F) (Memref.whole cc3_scratch2).view fob'' (ix3 (0 : Fin 2) (⟨kk.val, k2_lt kk⟩ : Fin 4) (⟨16 * g.val + l.val, by omega⟩ : Fin 128))
                    = scrSum d L (0 : Fin 2) fr kk.val (k2_lt kk) (ix3 (0 : Fin 2) (⟨kk.val, k2_lt kk⟩ : Fin 4) (⟨16 * g.val + l.val, by omega⟩ : Fin 128)))
                ∧ (∀ y : S2x4x128.Idx, ¬((y 0).val = 0 ∧ (y 1).val = kk.val) →
                    View.read (Elt F) (Memref.whole cc3_scratch2).view fob'' y = View.read (Elt F) (Memref.whole cc3_scratch2).view fob y)⌝) : sProp 𝕄) := by
  iintro ⟨Hrw, Hob⟩
  unfold k3_t2_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc3_scratch2).view fob (scrSum d L (0 : Fin 2) fr kk.val (k2_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (0 : Fin 2) fr kk.val (k2_lt kk) ((Rect.unit (s := S2x4x128) (k3_off19 kk) S1x1x16.size (k3_off19_inb kk)).emb (ix3 (0 : Fin 1) (0 : Fin 1) l'))
        simp only [Cert.Proof.KB.k3_pay569_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off18 kk (BitVec.ofNat 32 k.val)) S1x1x16.size (k3_off18_inb kk k)).toLoadRect fr (ix3 (0 : Fin 1) (0 : Fin 1) l')) rfl ?_
        refine (congrArg tree32 (funext fun k => ld_lane d L _ (0 : Fin 2) (32 * kk.val + k.val) 112 (by have := k2_lt kk; omega) (by omega) (k3_off18_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 112 + l'.val = k3_off19 kk 2 + 1 * l'.val
        rw [k3_off19_eq]
        show 112 + l'.val = 112 + 1 * l'.val
        omega
      · -- lane group 6: lanes 96 … 111
        intro x
        obtain ⟨l', rfl⟩ := exists_lane x
        show _ = scrSum d L (0 : Fin 2) fr kk.val (k2_lt kk) ((Rect.unit (s := S2x4x128) (k3_off17 kk) S1x1x16.size (k3_off17_inb kk)).emb (ix3 (0 : Fin 1) (0 : Fin 1) l'))
        simp only [Cert.Proof.KB.k3_pay241_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off16 kk (BitVec.ofNat 32 k.val)) S1x1x16.size (k3_off16_inb kk k)).toLoadRect fr (ix3 (0 : Fin 1) (0 : Fin 1) l')) rfl ?_
        refine (congrArg tree32 (funext fun k => ld_lane d L _ (0 : Fin 2) (32 * kk.val + k.val) 96 (by have := k2_lt kk; omega) (by omega) (k3_off16_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 96 + l'.val = k3_off17 kk 2 + 1 * l'.val
        rw [k3_off17_eq]
        show 96 + l'.val = 96 + 1 * l'.val
        omega
      · -- lane group 5: lanes 80 … 95
        intro x
        obtain ⟨l', rfl⟩ := exists_lane x
        show _ = scrSum d L (0 : Fin 2) fr kk.val (k2_lt kk) ((Rect.unit (s := S2x4x128) (k3_off15 kk) S1x1x16.size (k3_off15_inb kk)).emb (ix3 (0 : Fin 1) (0 : Fin 1) l'))
        simp only [Cert.Proof.KB.k3_pay197_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off14 kk (BitVec.ofNat 32 k.val)) S1x1x16.size (k3_off14_inb kk k)).toLoadRect fr (ix3 (0 : Fin 1) (0 : Fin 1) l')) rfl ?_
        refine (congrArg tree32 (funext fun k => ld_lane d L _ (0 : Fin 2) (32 * kk.val + k.val) 80 (by have := k2_lt kk; omega) (by omega) (k3_off14_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 80 + l'.val = k3_off15 kk 2 + 1 * l'.val
        rw [k3_off15_eq]
        show 80 + l'.val = 80 + 1 * l'.val
        omega
      · -- lane group 4: lanes 64 … 79
        intro x
        obtain ⟨l', rfl⟩ := exists_lane x
        show _ = scrSum d L (0 : Fin 2) fr kk.val (k2_lt kk) ((Rect.unit (s := S2x4x128) (k3_off13 kk) S1x1x16.size (k3_off13_inb kk)).emb (ix3 (0 : Fin 1) (0 : Fin 1) l'))
        simp only [Cert.Proof.KB.k3_pay158_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off12 kk (BitVec.ofNat 32 k.val)) S1x1x16.size (k3_off12_inb kk k)).toLoadRect fr (ix3 (0 : Fin 1) (0 : Fin 1) l')) rfl ?_
        refine (congrArg tree32 (funext fun k => ld_lane d L _ (0 : Fin 2) (32 * kk.val + k.val) 64 (by have := k2_lt kk; omega) (by omega) (k3_off12_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 64 + l'.val = k3_off13 kk 2 + 1 * l'.val
        rw [k3_off13_eq]
        show 64 + l'.val = 64 + 1 * l'.val
        omega
      · -- lane group 3: lanes 48 … 63
        intro x
        obtain ⟨l', rfl⟩ := exists_lane x
        show _ = scrSum d L (0 : Fin 2) fr kk.val (k2_lt kk) ((Rect.unit (s := S2x4x128) (k3_off11 kk) S1x1x16.size (k3_off11_inb kk)).emb (ix3 (0 : Fin 1) (0 : Fin 1) l'))
        simp only [Cert.Proof.KB.k3_pay124_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off10 kk (BitVec.ofNat 32 k.val)) S1x1x16.size (k3_off10_inb kk k)).toLoadRect fr (ix3 (0 : Fin 1) (0 : Fin 1) l')) rfl ?_
        refine (congrArg tree32 (funext fun k => ld_lane d L _ (0 : Fin 2) (32 * kk.val + k.val) 48 (by have := k2_lt kk; omega) (by omega) (k3_off10_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 48 + l'.val = k3_off11 kk 2 + 1 * l'.val
        rw [k3_off11_eq]
        show 48 + l'.val = 48 + 1 * l'.val
        omega
      · -- lane group 2: lanes 32 … 47
        intro x
        obtain ⟨l', rfl⟩ := exists_lane x
        show _ = scrSum d L (0 : Fin 2) fr kk.val (k2_lt kk) ((Rect.unit (s := S2x4x128) (k3_off9 kk) S1x1x16.size (k3_off9_inb kk)).emb (ix3 (0 : Fin 1) (0 : Fin 1) l'))
        simp only [Cert.Proof.KB.k3_pay92_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off8 kk (BitVec.ofNat 32 k.val)) S1x1x16.size (k3_off8_inb kk k)).toLoadRect fr (ix3 (0 : Fin 1) (0 : Fin 1) l')) rfl ?_
        refine (congrArg tree32 (funext fun k => ld_lane d L _ (0 : Fin 2) (32 * kk.val + k.val) 32 (by have := k2_lt kk; omega) (by omega) (k3_off8_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 32 + l'.val = k3_off9 kk 2 + 1 * l'.val
        rw [k3_off9_eq]
        show 32 + l'.val = 32 + 1 * l'.val
        omega
      · -- lane group 1: lanes 16 … 31
        intro x
        obtain ⟨l', rfl⟩ := exists_lane x
        show _ = scrSum d L (0 : Fin 2) fr kk.val (k2_lt kk) ((Rect.unit (s := S2x4x128) (k3_off7 kk) S1x1x16.size (k3_off7_inb kk)).emb (ix3 (0 : Fin 1) (0 : Fin 1) l'))
        simp only [Cert.Proof.KB.k3_pay61_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off6 kk (BitVec.ofNat 32 k.val)) S1x1x16.size (k3_off6_inb kk k)).toLoadRect fr (ix3 (0 : Fin 1) (0 : Fin 1) l')) rfl ?_
        refine (congrArg tree32 (funext fun k => ld_lane d L _ (0 : Fin 2) (32 * kk.val + k.val) 16 (by have := k2_lt kk; omega) (by omega) (k3_off6_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 16 + l'.val = k3_off7 kk 2 + 1 * l'.val
        rw [k3_off7_eq]
        show 16 + l'.val = 16 + 1 * l'.val
        omega
      · -- lane group 0: lanes 0 … 15
        intro x
        obtain ⟨l', rfl⟩ := exists_lane x
        show _ = scrSum d L (0 : Fin 2) fr kk.val (k2_lt kk) ((Rect.unit (s := S2x4x128) (k3_off5 kk) S1x1x16.size (k3_off5_inb kk)).emb (ix3 (0 : Fin 1) (0 : Fin 1) l'))
        simp only [Cert.Proof.KB.k3_pay30_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off4 kk (BitVec.ofNat 32 k.val)) S1x1x16.size (k3_off4_inb kk k)).toLoadRect fr (ix3 (0 : Fin 1) (0 : Fin 1) l')) rfl ?_
        refine (congrArg tree32 (funext fun k => ld_lane d L _ (0 : Fin 2) (32 * kk.val + k.val) 0 (by have := k2_lt kk; omega) (by omega) (k3_off4_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 0 + l'.val = k3_off5 kk 2 + 1 * l'.val
        rw [k3_off5_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (0 : Fin 2) (⟨kk.val, k2_lt kk⟩ : Fin 4) (⟨16 * 0 + l.val, by omega⟩ : Fin 128)) ∈ (Rect.unit (s := S2x4x128) (k3_off5 kk) S1x1x16.size (k3_off5_inb kk)).set
        rw [Rect.mem_set_unit, k3_off5_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (0 : Fin 2) (⟨kk.val, k2_lt kk⟩ : Fin 4) (⟨16 * 1 + l.val, by omega⟩ : Fin 128)) ∈ (Rect.unit (s := S2x4x128) (k3_off7 kk) S1x1x16.size (k3_off7_inb kk)).set
        rw [Rect.mem_set_unit, k3_off7_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (0 : Fin 2) (⟨kk.val, k2_lt kk⟩ : Fin 4) (⟨16 * 2 + l.val, by omega⟩ : Fin 128)) ∈ (Rect.unit (s := S2x4x128) (k3_off9 kk) S1x1x16.size (k3_off9_inb kk)).set
        rw [Rect.mem_set_unit, k3_off9_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (0 : Fin 2) (⟨kk.val, k2_lt kk⟩ : Fin 4) (⟨16 * 3 + l.val, by omega⟩ : Fin 128)) ∈ (Rect.unit (s := S2x4x128) (k3_off11 kk) S1x1x16.size (k3_off11_inb kk)).set
        rw [Rect.mem_set_unit, k3_off11_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (0 : Fin 2) (⟨kk.val, k2_lt kk⟩ : Fin 4) (⟨16 * 4 + l.val, by omega⟩ : Fin 128)) ∈ (Rect.unit (s := S2x4x128) (k3_off13 kk) S1x1x16.size (k3_off13_inb kk)).set
        rw [Rect.mem_set_unit, k3_off13_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (0 : Fin 2) (⟨kk.val, k2_lt kk⟩ : Fin 4) (⟨16 * 5 + l.val, by omega⟩ : Fin 128)) ∈ (Rect.unit (s := S2x4x128) (k3_off15 kk) S1x1x16.size (k3_off15_inb kk)).set
        rw [Rect.mem_set_unit, k3_off15_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (0 : Fin 2) (⟨kk.val, k2_lt kk⟩ : Fin 4) (⟨16 * 6 + l.val, by omega⟩ : Fin 128)) ∈ (Rect.unit (s := S2x4x128) (k3_off17 kk) S1x1x16.size (k3_off17_inb kk)).set
        rw [Rect.mem_set_unit, k3_off17_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (0 : Fin 2) (⟨kk.val, k2_lt kk⟩ : Fin 4) (⟨16 * 7 + l.val, by omega⟩ : Fin 128)) ∈ (Rect.unit (s := S2x4x128) (k3_off19 kk) S1x1x16.size (k3_off19_inb kk)).set
        rw [Rect.mem_set_unit, k3_off19_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc3_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k3_off19 kk) S1x1x16.size (k3_off19_inb kk)).set := hm
      rw [Rect.mem_set_unit, k3_off19_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 6
      intro hm
      have hm' : y ∈ (Rect.unit (s := S2x4x128) (k3_off17 kk) S1x1x16.size (k3_off17_inb kk)).set := hm
      rw [Rect.mem_set_unit, k3_off17_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 5
      intro hm
      have hm' : y ∈ (Rect.unit (s := S2x4x128) (k3_off15 kk) S1x1x16.size (k3_off15_inb kk)).set := hm
      rw [Rect.mem_set_unit, k3_off15_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 4
      intro hm
      have hm' : y ∈ (Rect.unit (s := S2x4x128) (k3_off13 kk) S1x1x16.size (k3_off13_inb kk)).set := hm
      rw [Rect.mem_set_unit, k3_off13_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 3
      intro hm
      have hm' : y ∈ (Rect.unit (s := S2x4x128) (k3_off11 kk) S1x1x16.size (k3_off11_inb kk)).set := hm
      rw [Rect.mem_set_unit, k3_off11_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 2
      intro hm
      have hm' : y ∈ (Rect.unit (s := S2x4x128) (k3_off9 kk) S1x1x16.size (k3_off9_inb kk)).set := hm
      rw [Rect.mem_set_unit, k3_off9_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 1
      intro hm
      have hm' : y ∈ (Rect.unit (s := S2x4x128) (k3_off7 kk) S1x1x16.size (k3_off7_inb kk)).set := hm
      rw [Rect.mem_set_unit, k3_off7_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 0
      intro hm
      have hm' : y ∈ (Rect.unit (s := S2x4x128) (k3_off5 kk) S1x1x16.size (k3_off5_inb kk)).set := hm
      rw [Rect.mem_set_unit, k3_off5_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩

set_option maxHeartbeats 4000000 in
/-- Trip `kk` of slot 0's inner loop while the output scratch is still held whole: the row scratch is only read; the output scratch ends with row `kk` of
    slot 0 at the trees of the 32 gathered rows, lane by lane, and is unchanged off that row.  (The contents are read
    through the whole buffer's view, `View.read … f = f`.) -/
theorem inner_trip0_first (k : Fin k3_t1_loop.trips) (kk : Fin k3_t2_loop.trips)
    (fr : Buf (Elt F) ((V d (cV L) (jV L)).loc cc3_scratch1)) (fob : Buf (Elt F) ((V d (cV L) (jV L)).loc cc3_scratch2))
    (v2 : BitVec 32) :
    iprop(((rwV).view.loc (V d (cV L) (jV L)) ↦[Finset.univ \ (rwK1).view.set]{fullShare} fr)
      ∗ ((obV).view.loc (V d (cV L) (jV L)) ↦{fullShare} fob))
      ⊢ (wp frame (wpE (defs₀ (F := F)) 𝒱₀ (V d (cV L) (jV L)) none) Set.univ
          (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k kk ())
          fun _ => iprop(((rwV).view.loc (V d (cV L) (jV L)) ↦[Finset.univ \ (rwK1).view.set]{fullShare} fr)
            ∗ ∃ fob'' : Buf (Elt F) ((V d (cV L) (jV L)).loc cc3_scratch2), ((obV).view.loc (V d (cV L) (jV L)) ↦{fullShare} fob'')
              ∗ ⌜(∀ (g : Fin 8) (l : Fin 16), View.read (Elt F) (Memref.whole cc3_scratch2).view fob'' (ix3 (0 : Fin 2) (⟨kk.val, k2_lt kk⟩ : Fin 4) (⟨16 * g.val + l.val, by omega⟩ : Fin 128))
                    = scrSum d L (0 : Fin 2) fr kk.val (k2_lt kk) (ix3 (0 : Fin 2) (⟨kk.val, k2_lt kk⟩ : Fin 4) (⟨16 * g.val + l.val, by omega⟩ : Fin 128)))
                ∧ (∀ y : S2x4x128.Idx, ¬((y 0).val = 0 ∧ (y 1).val = kk.val) →
                    View.read (Elt F) (Memref.whole cc3_scratch2).view fob'' y = View.read (Elt F) (Memref.whole cc3_scratch2).view fob y)⌝) : sProp 𝕄) := by
  iintro ⟨Hrw, Hob⟩
  unfold k3_t2_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc3_scratch2).view fob (scrSum d L (0 : Fin 2) fr kk.val (k2_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (0 : Fin 2) fr kk.val (k2_lt kk) ((Rect.unit (s := S2x4x128) (k3_off19 kk) S1x1x16.size (k3_off19_inb kk)).emb (ix3 (0 : Fin 1) (0 : Fin 1) l'))
        simp only [Cert.Proof.KB.k3_pay569_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off18 kk (BitVec.ofNat 32 k.val)) S1x1x16.size (k3_off18_inb kk k)).toLoadRect fr (ix3 (0 : Fin 1) (0 : Fin 1) l')) rfl ?_
        refine (congrArg tree32 (funext fun k => ld_lane d L _ (0 : Fin 2) (32 * kk.val + k.val) 112 (by have := k2_lt kk; omega) (by omega) (k3_off18_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 112 + l'.val = k3_off19 kk 2 + 1 * l'.val
        rw [k3_off19_eq]
        show 112 + l'.val = 112 + 1 * l'.val
        omega
      · -- lane group 6: lanes 96 … 111
        intro x
        obtain ⟨l', rfl⟩ := exists_lane x
        show _ = scrSum d L (0 : Fin 2) fr kk.val (k2_lt kk) ((Rect.unit (s := S2x4x128) (k3_off17 kk) S1x1x16.size (k3_off17_inb kk)).emb (ix3 (0 : Fin 1) (0 : Fin 1) l'))
        simp only [Cert.Proof.KB.k3_pay241_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off16 kk (BitVec.ofNat 32 k.val)) S1x1x16.size (k3_off16_inb kk k)).toLoadRect fr (ix3 (0 : Fin 1) (0 : Fin 1) l')) rfl ?_
        refine (congrArg tree32 (funext fun k => ld_lane d L _ (0 : Fin 2) (32 * kk.val + k.val) 96 (by have := k2_lt kk; omega) (by omega) (k3_off16_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 96 + l'.val = k3_off17 kk 2 + 1 * l'.val
        rw [k3_off17_eq]
        show 96 + l'.val = 96 + 1 * l'.val
        omega
      · -- lane group 5: lanes 80 … 95
        intro x
        obtain ⟨l', rfl⟩ := exists_lane x
        show _ = scrSum d L (0 : Fin 2) fr kk.val (k2_lt kk) ((Rect.unit (s := S2x4x128) (k3_off15 kk) S1x1x16.size (k3_off15_inb kk)).emb (ix3 (0 : Fin 1) (0 : Fin 1) l'))
        simp only [Cert.Proof.KB.k3_pay197_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off14 kk (BitVec.ofNat 32 k.val)) S1x1x16.size (k3_off14_inb kk k)).toLoadRect fr (ix3 (0 : Fin 1) (0 : Fin 1) l')) rfl ?_
        refine (congrArg tree32 (funext fun k => ld_lane d L _ (0 : Fin 2) (32 * kk.val + k.val) 80 (by have := k2_lt kk; omega) (by omega) (k3_off14_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 80 + l'.val = k3_off15 kk 2 + 1 * l'.val
        rw [k3_off15_eq]
        show 80 + l'.val = 80 + 1 * l'.val
        omega
      · -- lane group 4: lanes 64 … 79
        intro x
        obtain ⟨l', rfl⟩ := exists_lane x
        show _ = scrSum d L (0 : Fin 2) fr kk.val (k2_lt kk) ((Rect.unit (s := S2x4x128) (k3_off13 kk) S1x1x16.size (k3_off13_inb kk)).emb (ix3 (0 : Fin 1) (0 : Fin 1) l'))
        simp only [Cert.Proof.KB.k3_pay158_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off12 kk (BitVec.ofNat 32 k.val)) S1x1x16.size (k3_off12_inb kk k)).toLoadRect fr (ix3 (0 : Fin 1) (0 : Fin 1) l')) rfl ?_
        refine (congrArg tree32 (funext fun k => ld_lane d L _ (0 : Fin 2) (32 * kk.val + k.val) 64 (by have := k2_lt kk; omega) (by omega) (k3_off12_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 64 + l'.val = k3_off13 kk 2 + 1 * l'.val
        rw [k3_off13_eq]
        show 64 + l'.val = 64 + 1 * l'.val
        omega
      · -- lane group 3: lanes 48 … 63
        intro x
        obtain ⟨l', rfl⟩ := exists_lane x
        show _ = scrSum d L (0 : Fin 2) fr kk.val (k2_lt kk) ((Rect.unit (s := S2x4x128) (k3_off11 kk) S1x1x16.size (k3_off11_inb kk)).emb (ix3 (0 : Fin 1) (0 : Fin 1) l'))
        simp only [Cert.Proof.KB.k3_pay124_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off10 kk (BitVec.ofNat 32 k.val)) S1x1x16.size (k3_off10_inb kk k)).toLoadRect fr (ix3 (0 : Fin 1) (0 : Fin 1) l')) rfl ?_
        refine (congrArg tree32 (funext fun k => ld_lane d L _ (0 : Fin 2) (32 * kk.val + k.val) 48 (by have := k2_lt kk; omega) (by omega) (k3_off10_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 48 + l'.val = k3_off11 kk 2 + 1 * l'.val
        rw [k3_off11_eq]
        show 48 + l'.val = 48 + 1 * l'.val
        omega
      · -- lane group 2: lanes 32 … 47
        intro x
        obtain ⟨l', rfl⟩ := exists_lane x
        show _ = scrSum d L (0 : Fin 2) fr kk.val (k2_lt kk) ((Rect.unit (s := S2x4x128) (k3_off9 kk) S1x1x16.size (k3_off9_inb kk)).emb (ix3 (0 : Fin 1) (0 : Fin 1) l'))
        simp only [Cert.Proof.KB.k3_pay92_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off8 kk (BitVec.ofNat 32 k.val)) S1x1x16.size (k3_off8_inb kk k)).toLoadRect fr (ix3 (0 : Fin 1) (0 : Fin 1) l')) rfl ?_
        refine (congrArg tree32 (funext fun k => ld_lane d L _ (0 : Fin 2) (32 * kk.val + k.val) 32 (by have := k2_lt kk; omega) (by omega) (k3_off8_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 32 + l'.val = k3_off9 kk 2 + 1 * l'.val
        rw [k3_off9_eq]
        show 32 + l'.val = 32 + 1 * l'.val
        omega
      · -- lane group 1: lanes 16 … 31
        intro x
        obtain ⟨l', rfl⟩ := exists_lane x
        show _ = scrSum d L (0 : Fin 2) fr kk.val (k2_lt kk) ((Rect.unit (s := S2x4x128) (k3_off7 kk) S1x1x16.size (k3_off7_inb kk)).emb (ix3 (0 : Fin 1) (0 : Fin 1) l'))
        simp only [Cert.Proof.KB.k3_pay61_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off6 kk (BitVec.ofNat 32 k.val)) S1x1x16.size (k3_off6_inb kk k)).toLoadRect fr (ix3 (0 : Fin 1) (0 : Fin 1) l')) rfl ?_
        refine (congrArg tree32 (funext fun k => ld_lane d L _ (0 : Fin 2) (32 * kk.val + k.val) 16 (by have := k2_lt kk; omega) (by omega) (k3_off6_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 16 + l'.val = k3_off7 kk 2 + 1 * l'.val
        rw [k3_off7_eq]
        show 16 + l'.val = 16 + 1 * l'.val
        omega
      · -- lane group 0: lanes 0 … 15
        intro x
        obtain ⟨l', rfl⟩ := exists_lane x
        show _ = scrSum d L (0 : Fin 2) fr kk.val (k2_lt kk) ((Rect.unit (s := S2x4x128) (k3_off5 kk) S1x1x16.size (k3_off5_inb kk)).emb (ix3 (0 : Fin 1) (0 : Fin 1) l'))
        simp only [Cert.Proof.KB.k3_pay30_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off4 kk (BitVec.ofNat 32 k.val)) S1x1x16.size (k3_off4_inb kk k)).toLoadRect fr (ix3 (0 : Fin 1) (0 : Fin 1) l')) rfl ?_
        refine (congrArg tree32 (funext fun k => ld_lane d L _ (0 : Fin 2) (32 * kk.val + k.val) 0 (by have := k2_lt kk; omega) (by omega) (k3_off4_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 0 + l'.val = k3_off5 kk 2 + 1 * l'.val
        rw [k3_off5_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (0 : Fin 2) (⟨kk.val, k2_lt kk⟩ : Fin 4) (⟨16 * 0 + l.val, by omega⟩ : Fin 128)) ∈ (Rect.unit (s := S2x4x128) (k3_off5 kk) S1x1x16.size (k3_off5_inb kk)).set
        rw [Rect.mem_set_unit, k3_off5_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (0 : Fin 2) (⟨kk.val, k2_lt kk⟩ : Fin 4) (⟨16 * 1 + l.val, by omega⟩ : Fin 128)) ∈ (Rect.unit (s := S2x4x128) (k3_off7 kk) S1x1x16.size (k3_off7_inb kk)).set
        rw [Rect.mem_set_unit, k3_off7_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (0 : Fin 2) (⟨kk.val, k2_lt kk⟩ : Fin 4) (⟨16 * 2 + l.val, by omega⟩ : Fin 128)) ∈ (Rect.unit (s := S2x4x128) (k3_off9 kk) S1x1x16.size (k3_off9_inb kk)).set
        rw [Rect.mem_set_unit, k3_off9_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (0 : Fin 2) (⟨kk.val, k2_lt kk⟩ : Fin 4) (⟨16 * 3 + l.val, by omega⟩ : Fin 128)) ∈ (Rect.unit (s := S2x4x128) (k3_off11 kk) S1x1x16.size (k3_off11_inb kk)).set
        rw [Rect.mem_set_unit, k3_off11_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (0 : Fin 2) (⟨kk.val, k2_lt kk⟩ : Fin 4) (⟨16 * 4 + l.val, by omega⟩ : Fin 128)) ∈ (Rect.unit (s := S2x4x128) (k3_off13 kk) S1x1x16.size (k3_off13_inb kk)).set
        rw [Rect.mem_set_unit, k3_off13_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (0 : Fin 2) (⟨kk.val, k2_lt kk⟩ : Fin 4) (⟨16 * 5 + l.val, by omega⟩ : Fin 128)) ∈ (Rect.unit (s := S2x4x128) (k3_off15 kk) S1x1x16.size (k3_off15_inb kk)).set
        rw [Rect.mem_set_unit, k3_off15_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (0 : Fin 2) (⟨kk.val, k2_lt kk⟩ : Fin 4) (⟨16 * 6 + l.val, by omega⟩ : Fin 128)) ∈ (Rect.unit (s := S2x4x128) (k3_off17 kk) S1x1x16.size (k3_off17_inb kk)).set
        rw [Rect.mem_set_unit, k3_off17_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (0 : Fin 2) (⟨kk.val, k2_lt kk⟩ : Fin 4) (⟨16 * 7 + l.val, by omega⟩ : Fin 128)) ∈ (Rect.unit (s := S2x4x128) (k3_off19 kk) S1x1x16.size (k3_off19_inb kk)).set
        rw [Rect.mem_set_unit, k3_off19_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc3_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k3_off19 kk) S1x1x16.size (k3_off19_inb kk)).set := hm
      rw [Rect.mem_set_unit, k3_off19_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 6
      intro hm
      have hm' : y ∈ (Rect.unit (s := S2x4x128) (k3_off17 kk) S1x1x16.size (k3_off17_inb kk)).set := hm
      rw [Rect.mem_set_unit, k3_off17_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 5
      intro hm
      have hm' : y ∈ (Rect.unit (s := S2x4x128) (k3_off15 kk) S1x1x16.size (k3_off15_inb kk)).set := hm
      rw [Rect.mem_set_unit, k3_off15_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 4
      intro hm
      have hm' : y ∈ (Rect.unit (s := S2x4x128) (k3_off13 kk) S1x1x16.size (k3_off13_inb kk)).set := hm
      rw [Rect.mem_set_unit, k3_off13_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 3
      intro hm
      have hm' : y ∈ (Rect.unit (s := S2x4x128) (k3_off11 kk) S1x1x16.size (k3_off11_inb kk)).set := hm
      rw [Rect.mem_set_unit, k3_off11_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 2
      intro hm
      have hm' : y ∈ (Rect.unit (s := S2x4x128) (k3_off9 kk) S1x1x16.size (k3_off9_inb kk)).set := hm
      rw [Rect.mem_set_unit, k3_off9_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 1
      intro hm
      have hm' : y ∈ (Rect.unit (s := S2x4x128) (k3_off7 kk) S1x1x16.size (k3_off7_inb kk)).set := hm
      rw [Rect.mem_set_unit, k3_off7_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 0
      intro hm
      have hm' : y ∈ (Rect.unit (s := S2x4x128) (k3_off5 kk) S1x1x16.size (k3_off5_inb kk)).set := hm
      rw [Rect.mem_set_unit, k3_off5_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩

set_option maxHeartbeats 4000000 in
/-- Trip `kk` of slot 1's inner loop: the row scratch is only read; the output scratch ends with row `kk` of
    slot 1 at the trees of the 32 gathered rows, lane by lane, and is unchanged off that row.  (The contents are read
    through the whole buffer's view, `View.read … f = f`.) -/
theorem inner_trip1 (k : Fin k3_t1_loop.trips) (kk : Fin k3_t3_loop.trips)
    (fr : Buf (Elt F) ((V d (cV L) (jV L)).loc cc3_scratch1)) (fob : Buf (Elt F) ((V d (cV L) (jV L)).loc cc3_scratch2))
    (v2 : BitVec 32) (arg11 : BitVec 32) :
    iprop(((rwV).view.loc (V d (cV L) (jV L)) ↦[Finset.univ \ (rwK0).view.set]{fullShare} fr)
      ∗ ((obV).view.loc (V d (cV L) (jV L)) ↦[Finset.univ \ (obK0).view.set]{fullShare} fob))
      ⊢ (wp frame (wpE (defs₀ (F := F)) 𝒱₀ (V d (cV L) (jV L)) none) Set.univ
          (k3_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k arg11 kk ())
          fun _ => iprop(((rwV).view.loc (V d (cV L) (jV L)) ↦[Finset.univ \ (rwK0).view.set]{fullShare} fr)
            ∗ ∃ fob'' : Buf (Elt F) ((V d (cV L) (jV L)).loc cc3_scratch2), ((obV).view.loc (V d (cV L) (jV L)) ↦[Finset.univ \ (obK0).view.set]{fullShare} fob'')
              ∗ ⌜(∀ (g : Fin 8) (l : Fin 16), View.read (Elt F) (Memref.whole cc3_scratch2).view fob'' (ix3 (1 : Fin 2) (⟨kk.val, k3_lt kk⟩ : Fin 4) (⟨16 * g.val + l.val, by omega⟩ : Fin 128))
                    = scrSum d L (1 : Fin 2) fr kk.val (k3_lt kk) (ix3 (1 : Fin 2) (⟨kk.val, k3_lt kk⟩ : Fin 4) (⟨16 * g.val + l.val, by omega⟩ : Fin 128)))
                ∧ (∀ y : S2x4x128.Idx, ¬((y 0).val = 1 ∧ (y 1).val = kk.val) →
                    View.read (Elt F) (Memref.whole cc3_scratch2).view fob'' y = View.read (Elt F) (Memref.whole cc3_scratch2).view fob y)⌝) : sProp 𝕄) := by
  iintro ⟨Hrw, Hob⟩
  unfold k3_t3_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc3_scratch2).view fob (scrSum d L (1 : Fin 2) fr kk.val (k3_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (1 : Fin 2) fr kk.val (k3_lt kk) ((Rect.unit (s := S2x4x128) (k3_off38 kk) S1x1x16.size (k3_off38_inb kk)).emb (ix3 (0 : Fin 1) (0 : Fin 1) l'))
        simp only [Cert.Proof.KB.k3_pay570_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off37 kk (BitVec.ofNat 32 k.val)) S1x1x16.size (k3_off37_inb kk k)).toLoadRect fr (ix3 (0 : Fin 1) (0 : Fin 1) l')) rfl ?_
        refine (congrArg tree32 (funext fun k => ld_lane d L _ (1 : Fin 2) (32 * kk.val + k.val) 112 (by have := k3_lt kk; omega) (by omega) (k3_off37_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 112 + l'.val = k3_off38 kk 2 + 1 * l'.val
        rw [k3_off38_eq]
        show 112 + l'.val = 112 + 1 * l'.val
        omega
      · -- lane group 6: lanes 96 … 111
        intro x
        obtain ⟨l', rfl⟩ := exists_lane x
        show _ = scrSum d L (1 : Fin 2) fr kk.val (k3_lt kk) ((Rect.unit (s := S2x4x128) (k3_off36 kk) S1x1x16.size (k3_off36_inb kk)).emb (ix3 (0 : Fin 1) (0 : Fin 1) l'))
        simp only [Cert.Proof.KB.k3_pay525_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off35 kk (BitVec.ofNat 32 k.val)) S1x1x16.size (k3_off35_inb kk k)).toLoadRect fr (ix3 (0 : Fin 1) (0 : Fin 1) l')) rfl ?_
        refine (congrArg tree32 (funext fun k => ld_lane d L _ (1 : Fin 2) (32 * kk.val + k.val) 96 (by have := k3_lt kk; omega) (by omega) (k3_off35_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 96 + l'.val = k3_off36 kk 2 + 1 * l'.val
        rw [k3_off36_eq]
        show 96 + l'.val = 96 + 1 * l'.val
        omega
      · -- lane group 5: lanes 80 … 95
        intro x
        obtain ⟨l', rfl⟩ := exists_lane x
        show _ = scrSum d L (1 : Fin 2) fr kk.val (k3_lt kk) ((Rect.unit (s := S2x4x128) (k3_off34 kk) S1x1x16.size (k3_off34_inb kk)).emb (ix3 (0 : Fin 1) (0 : Fin 1) l'))
        simp only [Cert.Proof.KB.k3_pay481_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off33 kk (BitVec.ofNat 32 k.val)) S1x1x16.size (k3_off33_inb kk k)).toLoadRect fr (ix3 (0 : Fin 1) (0 : Fin 1) l')) rfl ?_
        refine (congrArg tree32 (funext fun k => ld_lane d L _ (1 : Fin 2) (32 * kk.val + k.val) 80 (by have := k3_lt kk; omega) (by omega) (k3_off33_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 80 + l'.val = k3_off34 kk 2 + 1 * l'.val
        rw [k3_off34_eq]
        show 80 + l'.val = 80 + 1 * l'.val
        omega
      · -- lane group 4: lanes 64 … 79
        intro x
        obtain ⟨l', rfl⟩ := exists_lane x
        show _ = scrSum d L (1 : Fin 2) fr kk.val (k3_lt kk) ((Rect.unit (s := S2x4x128) (k3_off32 kk) S1x1x16.size (k3_off32_inb kk)).emb (ix3 (0 : Fin 1) (0 : Fin 1) l'))
        simp only [Cert.Proof.KB.k3_pay442_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off31 kk (BitVec.ofNat 32 k.val)) S1x1x16.size (k3_off31_inb kk k)).toLoadRect fr (ix3 (0 : Fin 1) (0 : Fin 1) l')) rfl ?_
        refine (congrArg tree32 (funext fun k => ld_lane d L _ (1 : Fin 2) (32 * kk.val + k.val) 64 (by have := k3_lt kk; omega) (by omega) (k3_off31_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 64 + l'.val = k3_off32 kk 2 + 1 * l'.val
        rw [k3_off32_eq]
        show 64 + l'.val = 64 + 1 * l'.val
        omega
      · -- lane group 3: lanes 48 … 63
        intro x
        obtain ⟨l', rfl⟩ := exists_lane x
        show _ = scrSum d L (1 : Fin 2) fr kk.val (k3_lt kk) ((Rect.unit (s := S2x4x128) (k3_off30 kk) S1x1x16.size (k3_off30_inb kk)).emb (ix3 (0 : Fin 1) (0 : Fin 1) l'))
        simp only [Cert.Proof.KB.k3_pay408_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off29 kk (BitVec.ofNat 32 k.val)) S1x1x16.size (k3_off29_inb kk k)).toLoadRect fr (ix3 (0 : Fin 1) (0 : Fin 1) l')) rfl ?_
        refine (congrArg tree32 (funext fun k => ld_lane d L _ (1 : Fin 2) (32 * kk.val + k.val) 48 (by have := k3_lt kk; omega) (by omega) (k3_off29_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 48 + l'.val = k3_off30 kk 2 + 1 * l'.val
        rw [k3_off30_eq]
        show 48 + l'.val = 48 + 1 * l'.val
        omega
      · -- lane group 2: lanes 32 … 47
        intro x
        obtain ⟨l', rfl⟩ := exists_lane x
        show _ = scrSum d L (1 : Fin 2) fr kk.val (k3_lt kk) ((Rect.unit (s := S2x4x128) (k3_off28 kk) S1x1x16.size (k3_off28_inb kk)).emb (ix3 (0 : Fin 1) (0 : Fin 1) l'))
        simp only [Cert.Proof.KB.k3_pay376_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off27 kk (BitVec.ofNat 32 k.val)) S1x1x16.size (k3_off27_inb kk k)).toLoadRect fr (ix3 (0 : Fin 1) (0 : Fin 1) l')) rfl ?_
        refine (congrArg tree32 (funext fun k => ld_lane d L _ (1 : Fin 2) (32 * kk.val + k.val) 32 (by have := k3_lt kk; omega) (by omega) (k3_off27_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 32 + l'.val = k3_off28 kk 2 + 1 * l'.val
        rw [k3_off28_eq]
        show 32 + l'.val = 32 + 1 * l'.val
        omega
      · -- lane group 1: lanes 16 … 31
        intro x
        obtain ⟨l', rfl⟩ := exists_lane x
        show _ = scrSum d L (1 : Fin 2) fr kk.val (k3_lt kk) ((Rect.unit (s := S2x4x128) (k3_off26 kk) S1x1x16.size (k3_off26_inb kk)).emb (ix3 (0 : Fin 1) (0 : Fin 1) l'))
        simp only [Cert.Proof.KB.k3_pay345_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off25 kk (BitVec.ofNat 32 k.val)) S1x1x16.size (k3_off25_inb kk k)).toLoadRect fr (ix3 (0 : Fin 1) (0 : Fin 1) l')) rfl ?_
        refine (congrArg tree32 (funext fun k => ld_lane d L _ (1 : Fin 2) (32 * kk.val + k.val) 16 (by have := k3_lt kk; omega) (by omega) (k3_off25_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 16 + l'.val = k3_off26 kk 2 + 1 * l'.val
        rw [k3_off26_eq]
        show 16 + l'.val = 16 + 1 * l'.val
        omega
      · -- lane group 0: lanes 0 … 15
        intro x
        obtain ⟨l', rfl⟩ := exists_lane x
        show _ = scrSum d L (1 : Fin 2) fr kk.val (k3_lt kk) ((Rect.unit (s := S2x4x128) (k3_off24 kk) S1x1x16.size (k3_off24_inb kk)).emb (ix3 (0 : Fin 1) (0 : Fin 1) l'))
        simp only [Cert.Proof.KB.k3_pay314_lane]
        sl_unfold_run_names
        simp only [Cert.Proof.KB.k3_pay1_lane, Cert.Proof.KB.k3_pay2_lane, Cert.Proof.KB.k3_pay3_lane, Cert.Proof.KB.k3_pay4_lane, Cert.Proof.KB.k3_pay5_lane, Cert.Proof.KB.k3_pay6_lane, Cert.Proof.KB.k3_pay7_lane, Cert.Proof.KB.k3_pay8_lane, Cert.Proof.KB.k3_pay9_lane, Cert.Proof.KB.k3_pay10_lane, Cert.Proof.KB.k3_pay11_lane, Cert.Proof.KB.k3_pay12_lane, Cert.Proof.KB.k3_pay13_lane, Cert.Proof.KB.k3_pay14_lane, Cert.Proof.KB.k3_pay15_lane, Cert.Proof.KB.k3_pay16_lane, Cert.Proof.KB.k3_pay17_lane, Cert.Proof.KB.k3_pay18_lane, Cert.Proof.KB.k3_pay19_lane, Cert.Proof.KB.k3_pay20_lane, Cert.Proof.KB.k3_pay21_lane, Cert.Proof.KB.k3_pay22_lane, Cert.Proof.KB.k3_pay23_lane, Cert.Proof.KB.k3_pay24_lane, Cert.Proof.KB.k3_pay25_lane, Cert.Proof.KB.k3_pay26_lane, Cert.Proof.KB.k3_pay27_lane, Cert.Proof.KB.k3_pay28_lane, Cert.Proof.KB.k3_pay29_lane, Cert.Proof.KB.k3_pay30_lane, Cert.Proof.KB.k3_pay31_lane, Cert.Proof.KB.k3_pay32_lane, Cert.Proof.KB.k3_pay33_lane, Cert.Proof.KB.k3_pay34_lane, Cert.Proof.KB.k3_pay35_lane, Cert.Proof.KB.k3_pay36_lane, Cert.Proof.KB.k3_pay37_lane, Cert.Proof.KB.k3_pay38_lane, Cert.Proof.KB.k3_pay39_lane, Cert.Proof.KB.k3_pay40_lane, Cert.Proof.KB.k3_pay41_lane, Cert.Proof.KB.k3_pay42_lane, Cert.Proof.KB.k3_pay43_lane, Cert.Proof.KB.k3_pay44_lane, Cert.Proof.KB.k3_pay45_lane, Cert.Proof.KB.k3_pay46_lane, Cert.Proof.KB.k3_pay47_lane, Cert.Proof.KB.k3_pay48_lane, Cert.Proof.KB.k3_pay49_lane, Cert.Proof.KB.k3_pay50_lane, Cert.Proof.KB.k3_pay51_lane, Cert.Proof.KB.k3_pay52_lane, Cert.Proof.KB.k3_pay53_lane, Cert.Proof.KB.k3_pay54_lane, Cert.Proof.KB.k3_pay55_lane, Cert.Proof.KB.k3_pay56_lane, Cert.Proof.KB.k3_pay57_lane, Cert.Proof.KB.k3_pay58_lane, Cert.Proof.KB.k3_pay59_lane, Cert.Proof.KB.k3_pay60_lane, Cert.Proof.KB.k3_pay61_lane, Cert.Proof.KB.k3_pay62_lane, Cert.Proof.KB.k3_pay63_lane, Cert.Proof.KB.k3_pay64_lane, Cert.Proof.KB.k3_pay65_lane, Cert.Proof.KB.k3_pay66_lane, Cert.Proof.KB.k3_pay67_lane, Cert.Proof.KB.k3_pay68_lane, Cert.Proof.KB.k3_pay69_lane, Cert.Proof.KB.k3_pay70_lane, Cert.Proof.KB.k3_pay71_lane, Cert.Proof.KB.k3_pay72_lane, Cert.Proof.KB.k3_pay73_lane, Cert.Proof.KB.k3_pay74_lane, Cert.Proof.KB.k3_pay75_lane, Cert.Proof.KB.k3_pay76_lane, Cert.Proof.KB.k3_pay77_lane, Cert.Proof.KB.k3_pay78_lane, Cert.Proof.KB.k3_pay79_lane, Cert.Proof.KB.k3_pay80_lane, Cert.Proof.KB.k3_pay81_lane, Cert.Proof.KB.k3_pay82_lane, Cert.Proof.KB.k3_pay83_lane, Cert.Proof.KB.k3_pay84_lane, Cert.Proof.KB.k3_pay85_lane, Cert.Proof.KB.k3_pay86_lane, Cert.Proof.KB.k3_pay87_lane, Cert.Proof.KB.k3_pay88_lane, Cert.Proof.KB.k3_pay89_lane, Cert.Proof.KB.k3_pay90_lane, Cert.Proof.KB.k3_pay91_lane, Cert.Proof.KB.k3_pay92_lane, Cert.Proof.KB.k3_pay93_lane, Cert.Proof.KB.k3_pay94_lane, Cert.Proof.KB.k3_pay95_lane, Cert.Proof.KB.k3_pay96_lane, Cert.Proof.KB.k3_pay97_lane, Cert.Proof.KB.k3_pay98_lane, Cert.Proof.KB.k3_pay99_lane, Cert.Proof.KB.k3_pay100_lane, Cert.Proof.KB.k3_pay101_lane, Cert.Proof.KB.k3_pay102_lane, Cert.Proof.KB.k3_pay103_lane, Cert.Proof.KB.k3_pay104_lane, Cert.Proof.KB.k3_pay105_lane, Cert.Proof.KB.k3_pay106_lane, Cert.Proof.KB.k3_pay107_lane, Cert.Proof.KB.k3_pay108_lane, Cert.Proof.KB.k3_pay109_lane, Cert.Proof.KB.k3_pay110_lane, Cert.Proof.KB.k3_pay111_lane, Cert.Proof.KB.k3_pay112_lane, Cert.Proof.KB.k3_pay113_lane, Cert.Proof.KB.k3_pay114_lane, Cert.Proof.KB.k3_pay115_lane, Cert.Proof.KB.k3_pay116_lane, Cert.Proof.KB.k3_pay117_lane, Cert.Proof.KB.k3_pay118_lane, Cert.Proof.KB.k3_pay119_lane, Cert.Proof.KB.k3_pay120_lane, Cert.Proof.KB.k3_pay121_lane, Cert.Proof.KB.k3_pay122_lane, Cert.Proof.KB.k3_pay123_lane, Cert.Proof.KB.k3_pay124_lane, Cert.Proof.KB.k3_pay125_lane, Cert.Proof.KB.k3_pay126_lane, Cert.Proof.KB.k3_pay127_lane, Cert.Proof.KB.k3_pay128_lane, Cert.Proof.KB.k3_pay129_lane, Cert.Proof.KB.k3_pay130_lane, Cert.Proof.KB.k3_pay131_lane, Cert.Proof.KB.k3_pay132_lane, Cert.Proof.KB.k3_pay133_lane, Cert.Proof.KB.k3_pay134_lane, Cert.Proof.KB.k3_pay135_lane, Cert.Proof.KB.k3_pay136_lane, Cert.Proof.KB.k3_pay137_lane, Cert.Proof.KB.k3_pay138_lane, Cert.Proof.KB.k3_pay139_lane, Cert.Proof.KB.k3_pay140_lane, Cert.Proof.KB.k3_pay141_lane, Cert.Proof.KB.k3_pay142_lane, Cert.Proof.KB.k3_pay143_lane, Cert.Proof.KB.k3_pay144_lane, Cert.Proof.KB.k3_pay145_lane, Cert.Proof.KB.k3_pay146_lane, Cert.Proof.KB.k3_pay147_lane, Cert.Proof.KB.k3_pay148_lane, Cert.Proof.KB.k3_pay149_lane, Cert.Proof.KB.k3_pay150_lane, Cert.Proof.KB.k3_pay151_lane, Cert.Proof.KB.k3_pay152_lane, Cert.Proof.KB.k3_pay153_lane, Cert.Proof.KB.k3_pay154_lane, Cert.Proof.KB.k3_pay155_lane, Cert.Proof.KB.k3_pay156_lane, Cert.Proof.KB.k3_pay157_lane, Cert.Proof.KB.k3_pay158_lane, Cert.Proof.KB.k3_pay159_lane, Cert.Proof.KB.k3_pay160_lane, Cert.Proof.KB.k3_pay161_lane, Cert.Proof.KB.k3_pay162_lane, Cert.Proof.KB.k3_pay163_lane, Cert.Proof.KB.k3_pay164_lane, Cert.Proof.KB.k3_pay165_lane, Cert.Proof.KB.k3_pay166_lane, Cert.Proof.KB.k3_pay167_lane, Cert.Proof.KB.k3_pay168_lane, Cert.Proof.KB.k3_pay169_lane, Cert.Proof.KB.k3_pay170_lane, Cert.Proof.KB.k3_pay171_lane, Cert.Proof.KB.k3_pay172_lane, Cert.Proof.KB.k3_pay173_lane, Cert.Proof.KB.k3_pay174_lane, Cert.Proof.KB.k3_pay175_lane, Cert.Proof.KB.k3_pay176_lane, Cert.Proof.KB.k3_pay177_lane, Cert.Proof.KB.k3_pay178_lane, Cert.Proof.KB.k3_pay179_lane, Cert.Proof.KB.k3_pay180_lane, Cert.Proof.KB.k3_pay181_lane, Cert.Proof.KB.k3_pay182_lane, Cert.Proof.KB.k3_pay183_lane, Cert.Proof.KB.k3_pay184_lane, Cert.Proof.KB.k3_pay185_lane, Cert.Proof.KB.k3_pay186_lane, Cert.Proof.KB.k3_pay187_lane, Cert.Proof.KB.k3_pay188_lane, Cert.Proof.KB.k3_pay189_lane, Cert.Proof.KB.k3_pay190_lane, Cert.Proof.KB.k3_pay191_lane, Cert.Proof.KB.k3_pay192_lane, Cert.Proof.KB.k3_pay193_lane, Cert.Proof.KB.k3_pay194_lane, Cert.Proof.KB.k3_pay195_lane, Cert.Proof.KB.k3_pay196_lane, Cert.Proof.KB.k3_pay197_lane, Cert.Proof.KB.k3_pay198_lane, Cert.Proof.KB.k3_pay199_lane, Cert.Proof.KB.k3_pay200_lane, Cert.Proof.KB.k3_pay201_lane, Cert.Proof.KB.k3_pay202_lane, Cert.Proof.KB.k3_pay203_lane, Cert.Proof.KB.k3_pay204_lane, Cert.Proof.KB.k3_pay205_lane, Cert.Proof.KB.k3_pay206_lane, Cert.Proof.KB.k3_pay207_lane, Cert.Proof.KB.k3_pay208_lane, Cert.Proof.KB.k3_pay209_lane, Cert.Proof.KB.k3_pay210_lane, Cert.Proof.KB.k3_pay211_lane, Cert.Proof.KB.k3_pay212_lane, Cert.Proof.KB.k3_pay213_lane, Cert.Proof.KB.k3_pay214_lane, Cert.Proof.KB.k3_pay215_lane, Cert.Proof.KB.k3_pay216_lane, Cert.Proof.KB.k3_pay217_lane, Cert.Proof.KB.k3_pay218_lane, Cert.Proof.KB.k3_pay219_lane, Cert.Proof.KB.k3_pay220_lane, Cert.Proof.KB.k3_pay221_lane, Cert.Proof.KB.k3_pay222_lane, Cert.Proof.KB.k3_pay223_lane, Cert.Proof.KB.k3_pay224_lane, Cert.Proof.KB.k3_pay225_lane, Cert.Proof.KB.k3_pay226_lane, Cert.Proof.KB.k3_pay227_lane, Cert.Proof.KB.k3_pay228_lane, Cert.Proof.KB.k3_pay229_lane, Cert.Proof.KB.k3_pay230_lane, Cert.Proof.KB.k3_pay231_lane, Cert.Proof.KB.k3_pay232_lane, Cert.Proof.KB.k3_pay233_lane, Cert.Proof.KB.k3_pay234_lane, Cert.Proof.KB.k3_pay235_lane, Cert.Proof.KB.k3_pay236_lane, Cert.Proof.KB.k3_pay237_lane, Cert.Proof.KB.k3_pay238_lane, Cert.Proof.KB.k3_pay239_lane, Cert.Proof.KB.k3_pay240_lane, Cert.Proof.KB.k3_pay241_lane, Cert.Proof.KB.k3_pay242_lane, Cert.Proof.KB.k3_pay243_lane, Cert.Proof.KB.k3_pay244_lane, Cert.Proof.KB.k3_pay245_lane, Cert.Proof.KB.k3_pay246_lane, Cert.Proof.KB.k3_pay247_lane, Cert.Proof.KB.k3_pay248_lane, Cert.Proof.KB.k3_pay249_lane, Cert.Proof.KB.k3_pay250_lane, Cert.Proof.KB.k3_pay251_lane, Cert.Proof.KB.k3_pay252_lane, Cert.Proof.KB.k3_pay253_lane, Cert.Proof.KB.k3_pay254_lane, Cert.Proof.KB.k3_pay255_lane, Cert.Proof.KB.k3_pay256_lane, Cert.Proof.KB.k3_pay257_lane, Cert.Proof.KB.k3_pay258_lane, Cert.Proof.KB.k3_pay259_lane, Cert.Proof.KB.k3_pay260_lane, Cert.Proof.KB.k3_pay261_lane, Cert.Proof.KB.k3_pay262_lane, Cert.Proof.KB.k3_pay263_lane, Cert.Proof.KB.k3_pay264_lane, Cert.Proof.KB.k3_pay265_lane, Cert.Proof.KB.k3_pay266_lane, Cert.Proof.KB.k3_pay267_lane, Cert.Proof.KB.k3_pay268_lane, Cert.Proof.KB.k3_pay269_lane, Cert.Proof.KB.k3_pay270_lane, Cert.Proof.KB.k3_pay271_lane, Cert.Proof.KB.k3_pay272_lane, Cert.Proof.KB.k3_pay273_lane, Cert.Proof.KB.k3_pay274_lane, Cert.Proof.KB.k3_pay275_lane, Cert.Proof.KB.k3_pay276_lane, Cert.Proof.KB.k3_pay277_lane, Cert.Proof.KB.k3_pay278_lane, Cert.Proof.KB.k3_pay279_lane, Cert.Proof.KB.k3_pay280_lane, Cert.Proof.KB.k3_pay281_lane, Cert.Proof.KB.k3_pay282_lane, Cert.Proof.KB.k3_pay283_lane, Cert.Proof.KB.k3_pay284_lane, Cert.Proof.KB.k3_pay285_lane, Cert.Proof.KB.k3_pay286_lane, Cert.Proof.KB.k3_pay287_lane, Cert.Proof.KB.k3_pay288_lane, Cert.Proof.KB.k3_pay289_lane, Cert.Proof.KB.k3_pay290_lane, Cert.Proof.KB.k3_pay291_lane, Cert.Proof.KB.k3_pay292_lane, Cert.Proof.KB.k3_pay293_lane, Cert.Proof.KB.k3_pay294_lane, Cert.Proof.KB.k3_pay295_lane, Cert.Proof.KB.k3_pay296_lane, Cert.Proof.KB.k3_pay297_lane, Cert.Proof.KB.k3_pay298_lane, Cert.Proof.KB.k3_pay299_lane, Cert.Proof.KB.k3_pay300_lane, Cert.Proof.KB.k3_pay301_lane, Cert.Proof.KB.k3_pay302_lane, Cert.Proof.KB.k3_pay303_lane, Cert.Proof.KB.k3_pay304_lane, Cert.Proof.KB.k3_pay305_lane, Cert.Proof.KB.k3_pay306_lane, Cert.Proof.KB.k3_pay307_lane, Cert.Proof.KB.k3_pay308_lane, Cert.Proof.KB.k3_pay309_lane, Cert.Proof.KB.k3_pay310_lane, Cert.Proof.KB.k3_pay311_lane, Cert.Proof.KB.k3_pay312_lane, Cert.Proof.KB.k3_pay313_lane, Cert.Proof.KB.k3_pay314_lane, Cert.Proof.KB.k3_pay315_lane, Cert.Proof.KB.k3_pay316_lane, Cert.Proof.KB.k3_pay317_lane, Cert.Proof.KB.k3_pay318_lane, Cert.Proof.KB.k3_pay319_lane, Cert.Proof.KB.k3_pay320_lane, Cert.Proof.KB.k3_pay321_lane, Cert.Proof.KB.k3_pay322_lane, Cert.Proof.KB.k3_pay323_lane, Cert.Proof.KB.k3_pay324_lane, Cert.Proof.KB.k3_pay325_lane, Cert.Proof.KB.k3_pay326_lane, Cert.Proof.KB.k3_pay327_lane, Cert.Proof.KB.k3_pay328_lane, Cert.Proof.KB.k3_pay329_lane, Cert.Proof.KB.k3_pay330_lane, Cert.Proof.KB.k3_pay331_lane, Cert.Proof.KB.k3_pay332_lane, Cert.Proof.KB.k3_pay333_lane, Cert.Proof.KB.k3_pay334_lane, Cert.Proof.KB.k3_pay335_lane, Cert.Proof.KB.k3_pay336_lane, Cert.Proof.KB.k3_pay337_lane, Cert.Proof.KB.k3_pay338_lane, Cert.Proof.KB.k3_pay339_lane, Cert.Proof.KB.k3_pay340_lane, Cert.Proof.KB.k3_pay341_lane, Cert.Proof.KB.k3_pay342_lane, Cert.Proof.KB.k3_pay343_lane, Cert.Proof.KB.k3_pay344_lane, Cert.Proof.KB.k3_pay345_lane, Cert.Proof.KB.k3_pay346_lane, Cert.Proof.KB.k3_pay347_lane, Cert.Proof.KB.k3_pay348_lane, Cert.Proof.KB.k3_pay349_lane, Cert.Proof.KB.k3_pay350_lane, Cert.Proof.KB.k3_pay351_lane, Cert.Proof.KB.k3_pay352_lane, Cert.Proof.KB.k3_pay353_lane, Cert.Proof.KB.k3_pay354_lane, Cert.Proof.KB.k3_pay355_lane, Cert.Proof.KB.k3_pay356_lane, Cert.Proof.KB.k3_pay357_lane, Cert.Proof.KB.k3_pay358_lane, Cert.Proof.KB.k3_pay359_lane, Cert.Proof.KB.k3_pay360_lane, Cert.Proof.KB.k3_pay361_lane, Cert.Proof.KB.k3_pay362_lane, Cert.Proof.KB.k3_pay363_lane, Cert.Proof.KB.k3_pay364_lane, Cert.Proof.KB.k3_pay365_lane, Cert.Proof.KB.k3_pay366_lane, Cert.Proof.KB.k3_pay367_lane, Cert.Proof.KB.k3_pay368_lane, Cert.Proof.KB.k3_pay369_lane, Cert.Proof.KB.k3_pay370_lane, Cert.Proof.KB.k3_pay371_lane, Cert.Proof.KB.k3_pay372_lane, Cert.Proof.KB.k3_pay373_lane, Cert.Proof.KB.k3_pay374_lane, Cert.Proof.KB.k3_pay375_lane, Cert.Proof.KB.k3_pay376_lane, Cert.Proof.KB.k3_pay377_lane, Cert.Proof.KB.k3_pay378_lane, Cert.Proof.KB.k3_pay379_lane, Cert.Proof.KB.k3_pay380_lane, Cert.Proof.KB.k3_pay381_lane, Cert.Proof.KB.k3_pay382_lane, Cert.Proof.KB.k3_pay383_lane, Cert.Proof.KB.k3_pay384_lane, Cert.Proof.KB.k3_pay385_lane, Cert.Proof.KB.k3_pay386_lane, Cert.Proof.KB.k3_pay387_lane, Cert.Proof.KB.k3_pay388_lane, Cert.Proof.KB.k3_pay389_lane, Cert.Proof.KB.k3_pay390_lane, Cert.Proof.KB.k3_pay391_lane, Cert.Proof.KB.k3_pay392_lane, Cert.Proof.KB.k3_pay393_lane, Cert.Proof.KB.k3_pay394_lane, Cert.Proof.KB.k3_pay395_lane, Cert.Proof.KB.k3_pay396_lane, Cert.Proof.KB.k3_pay397_lane, Cert.Proof.KB.k3_pay398_lane, Cert.Proof.KB.k3_pay399_lane, Cert.Proof.KB.k3_pay400_lane, Cert.Proof.KB.k3_pay401_lane, Cert.Proof.KB.k3_pay402_lane, Cert.Proof.KB.k3_pay403_lane, Cert.Proof.KB.k3_pay404_lane, Cert.Proof.KB.k3_pay405_lane, Cert.Proof.KB.k3_pay406_lane, Cert.Proof.KB.k3_pay407_lane, Cert.Proof.KB.k3_pay408_lane, Cert.Proof.KB.k3_pay409_lane, Cert.Proof.KB.k3_pay410_lane, Cert.Proof.KB.k3_pay411_lane, Cert.Proof.KB.k3_pay412_lane, Cert.Proof.KB.k3_pay413_lane, Cert.Proof.KB.k3_pay414_lane, Cert.Proof.KB.k3_pay415_lane, Cert.Proof.KB.k3_pay416_lane, Cert.Proof.KB.k3_pay417_lane, Cert.Proof.KB.k3_pay418_lane, Cert.Proof.KB.k3_pay419_lane, Cert.Proof.KB.k3_pay420_lane, Cert.Proof.KB.k3_pay421_lane, Cert.Proof.KB.k3_pay422_lane, Cert.Proof.KB.k3_pay423_lane, Cert.Proof.KB.k3_pay424_lane, Cert.Proof.KB.k3_pay425_lane, Cert.Proof.KB.k3_pay426_lane, Cert.Proof.KB.k3_pay427_lane, Cert.Proof.KB.k3_pay428_lane, Cert.Proof.KB.k3_pay429_lane, Cert.Proof.KB.k3_pay430_lane, Cert.Proof.KB.k3_pay431_lane, Cert.Proof.KB.k3_pay432_lane, Cert.Proof.KB.k3_pay433_lane, Cert.Proof.KB.k3_pay434_lane, Cert.Proof.KB.k3_pay435_lane, Cert.Proof.KB.k3_pay436_lane, Cert.Proof.KB.k3_pay437_lane, Cert.Proof.KB.k3_pay438_lane, Cert.Proof.KB.k3_pay439_lane, Cert.Proof.KB.k3_pay440_lane, Cert.Proof.KB.k3_pay441_lane, Cert.Proof.KB.k3_pay442_lane, Cert.Proof.KB.k3_pay443_lane, Cert.Proof.KB.k3_pay444_lane, Cert.Proof.KB.k3_pay445_lane, Cert.Proof.KB.k3_pay446_lane, Cert.Proof.KB.k3_pay447_lane, Cert.Proof.KB.k3_pay448_lane, Cert.Proof.KB.k3_pay449_lane, Cert.Proof.KB.k3_pay450_lane, Cert.Proof.KB.k3_pay451_lane, Cert.Proof.KB.k3_pay452_lane, Cert.Proof.KB.k3_pay453_lane, Cert.Proof.KB.k3_pay454_lane, Cert.Proof.KB.k3_pay455_lane, Cert.Proof.KB.k3_pay456_lane, Cert.Proof.KB.k3_pay457_lane, Cert.Proof.KB.k3_pay458_lane, Cert.Proof.KB.k3_pay459_lane, Cert.Proof.KB.k3_pay460_lane, Cert.Proof.KB.k3_pay461_lane, Cert.Proof.KB.k3_pay462_lane, Cert.Proof.KB.k3_pay463_lane, Cert.Proof.KB.k3_pay464_lane, Cert.Proof.KB.k3_pay465_lane, Cert.Proof.KB.k3_pay466_lane, Cert.Proof.KB.k3_pay467_lane, Cert.Proof.KB.k3_pay468_lane, Cert.Proof.KB.k3_pay469_lane, Cert.Proof.KB.k3_pay470_lane, Cert.Proof.KB.k3_pay471_lane, Cert.Proof.KB.k3_pay472_lane, Cert.Proof.KB.k3_pay473_lane, Cert.Proof.KB.k3_pay474_lane, Cert.Proof.KB.k3_pay475_lane, Cert.Proof.KB.k3_pay476_lane, Cert.Proof.KB.k3_pay477_lane, Cert.Proof.KB.k3_pay478_lane, Cert.Proof.KB.k3_pay479_lane, Cert.Proof.KB.k3_pay480_lane, Cert.Proof.KB.k3_pay481_lane, Cert.Proof.KB.k3_pay482_lane, Cert.Proof.KB.k3_pay483_lane, Cert.Proof.KB.k3_pay484_lane, Cert.Proof.KB.k3_pay485_lane, Cert.Proof.KB.k3_pay486_lane, Cert.Proof.KB.k3_pay487_lane, Cert.Proof.KB.k3_pay488_lane, Cert.Proof.KB.k3_pay489_lane, Cert.Proof.KB.k3_pay490_lane, Cert.Proof.KB.k3_pay491_lane, Cert.Proof.KB.k3_pay492_lane, Cert.Proof.KB.k3_pay493_lane, Cert.Proof.KB.k3_pay494_lane, Cert.Proof.KB.k3_pay495_lane, Cert.Proof.KB.k3_pay496_lane, Cert.Proof.KB.k3_pay497_lane, Cert.Proof.KB.k3_pay498_lane, Cert.Proof.KB.k3_pay499_lane, Cert.Proof.KB.k3_pay500_lane, Cert.Proof.KB.k3_pay501_lane, Cert.Proof.KB.k3_pay502_lane, Cert.Proof.KB.k3_pay503_lane, Cert.Proof.KB.k3_pay504_lane, Cert.Proof.KB.k3_pay505_lane, Cert.Proof.KB.k3_pay506_lane, Cert.Proof.KB.k3_pay507_lane, Cert.Proof.KB.k3_pay508_lane, Cert.Proof.KB.k3_pay509_lane, Cert.Proof.KB.k3_pay510_lane, Cert.Proof.KB.k3_pay511_lane, Cert.Proof.KB.k3_pay512_lane, Cert.Proof.KB.k3_pay513_lane, Cert.Proof.KB.k3_pay514_lane, Cert.Proof.KB.k3_pay515_lane, Cert.Proof.KB.k3_pay516_lane, Cert.Proof.KB.k3_pay517_lane, Cert.Proof.KB.k3_pay518_lane, Cert.Proof.KB.k3_pay519_lane, Cert.Proof.KB.k3_pay520_lane, Cert.Proof.KB.k3_pay521_lane, Cert.Proof.KB.k3_pay522_lane, Cert.Proof.KB.k3_pay523_lane, Cert.Proof.KB.k3_pay524_lane, Cert.Proof.KB.k3_pay525_lane, Cert.Proof.KB.k3_pay526_lane, Cert.Proof.KB.k3_pay527_lane, Cert.Proof.KB.k3_pay528_lane, Cert.Proof.KB.k3_pay529_lane, Cert.Proof.KB.k3_pay530_lane, Cert.Proof.KB.k3_pay531_lane, Cert.Proof.KB.k3_pay532_lane, Cert.Proof.KB.k3_pay533_lane, Cert.Proof.KB.k3_pay534_lane, Cert.Proof.KB.k3_pay535_lane, Cert.Proof.KB.k3_pay536_lane, Cert.Proof.KB.k3_pay537_lane, Cert.Proof.KB.k3_pay538_lane, Cert.Proof.KB.k3_pay539_lane, Cert.Proof.KB.k3_pay540_lane, Cert.Proof.KB.k3_pay541_lane, Cert.Proof.KB.k3_pay542_lane, Cert.Proof.KB.k3_pay543_lane, Cert.Proof.KB.k3_pay544_lane, Cert.Proof.KB.k3_pay545_lane, Cert.Proof.KB.k3_pay546_lane, Cert.Proof.KB.k3_pay547_lane, Cert.Proof.KB.k3_pay548_lane, Cert.Proof.KB.k3_pay549_lane, Cert.Proof.KB.k3_pay550_lane, Cert.Proof.KB.k3_pay551_lane, Cert.Proof.KB.k3_pay552_lane, Cert.Proof.KB.k3_pay553_lane, Cert.Proof.KB.k3_pay554_lane, Cert.Proof.KB.k3_pay555_lane, Cert.Proof.KB.k3_pay556_lane, Cert.Proof.KB.k3_pay557_lane, Cert.Proof.KB.k3_pay558_lane, Cert.Proof.KB.k3_pay559_lane, Cert.Proof.KB.k3_pay560_lane, Cert.Proof.KB.k3_pay561_lane, Cert.Proof.KB.k3_pay562_lane, Cert.Proof.KB.k3_pay563_lane, Cert.Proof.KB.k3_pay564_lane, Cert.Proof.KB.k3_pay565_lane, Cert.Proof.KB.k3_pay566_lane, Cert.Proof.KB.k3_pay567_lane, Cert.Proof.KB.k3_pay568_lane, Cert.Proof.KB.k3_pay569_lane, Cert.Proof.KB.k3_pay570_lane, Cert.Proof.KB.cast_16]
        refine Eq.trans (b := tree32 fun k : Fin 32 => View.readAt (Elt F) (Memref.whole cc3_scratch1).view
          (Rect.unit (s := S2x128x128) (k3_off23 kk (BitVec.ofNat 32 k.val)) S1x1x16.size (k3_off23_inb kk k)).toLoadRect fr (ix3 (0 : Fin 1) (0 : Fin 1) l')) rfl ?_
        refine (congrArg tree32 (funext fun k => ld_lane d L _ (1 : Fin 2) (32 * kk.val + k.val) 0 (by have := k3_lt kk; omega) (by omega) (k3_off23_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 0 + l'.val = k3_off24 kk 2 + 1 * l'.val
        rw [k3_off24_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (1 : Fin 2) (⟨kk.val, k3_lt kk⟩ : Fin 4) (⟨16 * 0 + l.val, by omega⟩ : Fin 128)) ∈ (Rect.unit (s := S2x4x128) (k3_off24 kk) S1x1x16.size (k3_off24_inb kk)).set
        rw [Rect.mem_set_unit, k3_off24_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (1 : Fin 2) (⟨kk.val, k3_lt kk⟩ : Fin 4) (⟨16 * 1 + l.val, by omega⟩ : Fin 128)) ∈ (Rect.unit (s := S2x4x128) (k3_off26 kk) S1x1x16.size (k3_off26_inb kk)).set
        rw [Rect.mem_set_unit, k3_off26_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (1 : Fin 2) (⟨kk.val, k3_lt kk⟩ : Fin 4) (⟨16 * 2 + l.val, by omega⟩ : Fin 128)) ∈ (Rect.unit (s := S2x4x128) (k3_off28 kk) S1x1x16.size (k3_off28_inb kk)).set
        rw [Rect.mem_set_unit, k3_off28_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (1 : Fin 2) (⟨kk.val, k3_lt kk⟩ : Fin 4) (⟨16 * 3 + l.val, by omega⟩ : Fin 128)) ∈ (Rect.unit (s := S2x4x128) (k3_off30 kk) S1x1x16.size (k3_off30_inb kk)).set
        rw [Rect.mem_set_unit, k3_off30_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (1 : Fin 2) (⟨kk.val, k3_lt kk⟩ : Fin 4) (⟨16 * 4 + l.val, by omega⟩ : Fin 128)) ∈ (Rect.unit (s := S2x4x128) (k3_off32 kk) S1x1x16.size (k3_off32_inb kk)).set
        rw [Rect.mem_set_unit, k3_off32_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (1 : Fin 2) (⟨kk.val, k3_lt kk⟩ : Fin 4) (⟨16 * 5 + l.val, by omega⟩ : Fin 128)) ∈ (Rect.unit (s := S2x4x128) (k3_off34 kk) S1x1x16.size (k3_off34_inb kk)).set
        rw [Rect.mem_set_unit, k3_off34_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (1 : Fin 2) (⟨kk.val, k3_lt kk⟩ : Fin 4) (⟨16 * 6 + l.val, by omega⟩ : Fin 128)) ∈ (Rect.unit (s := S2x4x128) (k3_off36 kk) S1x1x16.size (k3_off36_inb kk)).set
        rw [Rect.mem_set_unit, k3_off36_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (1 : Fin 2) (⟨kk.val, k3_lt kk⟩ : Fin 4) (⟨16 * 7 + l.val, by omega⟩ : Fin 128)) ∈ (Rect.unit (s := S2x4x128) (k3_off38 kk) S1x1x16.size (k3_off38_inb kk)).set
        rw [Rect.mem_set_unit, k3_off38_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc3_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k3_off38 kk) S1x1x16.size (k3_off38_inb kk)).set := hm
      rw [Rect.mem_set_unit, k3_off38_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 6
      intro hm
      have hm' : y ∈ (Rect.unit (s := S2x4x128) (k3_off36 kk) S1x1x16.size (k3_off36_inb kk)).set := hm
      rw [Rect.mem_set_unit, k3_off36_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 5
      intro hm
      have hm' : y ∈ (Rect.unit (s := S2x4x128) (k3_off34 kk) S1x1x16.size (k3_off34_inb kk)).set := hm
      rw [Rect.mem_set_unit, k3_off34_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 4
      intro hm
      have hm' : y ∈ (Rect.unit (s := S2x4x128) (k3_off32 kk) S1x1x16.size (k3_off32_inb kk)).set := hm
      rw [Rect.mem_set_unit, k3_off32_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 3
      intro hm
      have hm' : y ∈ (Rect.unit (s := S2x4x128) (k3_off30 kk) S1x1x16.size (k3_off30_inb kk)).set := hm
      rw [Rect.mem_set_unit, k3_off30_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 2
      intro hm
      have hm' : y ∈ (Rect.unit (s := S2x4x128) (k3_off28 kk) S1x1x16.size (k3_off28_inb kk)).set := hm
      rw [Rect.mem_set_unit, k3_off28_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 1
      intro hm
      have hm' : y ∈ (Rect.unit (s := S2x4x128) (k3_off26 kk) S1x1x16.size (k3_off26_inb kk)).set := hm
      rw [Rect.mem_set_unit, k3_off26_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 0
      intro hm
      have hm' : y ∈ (Rect.unit (s := S2x4x128) (k3_off24 kk) S1x1x16.size (k3_off24_inb kk)).set := hm
      rw [Rect.mem_set_unit, k3_off24_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩

end Inner

end Cert.Proof.TileB1

end
-- ==== Proof.BodyInnerVC1K.lean ====
import proofs.«205366_g3083786518796_cont_9to1_852_38_alg».proof.Proof.BodyInnerC1K
import proofs.«205366_g3083786518796_cont_9to1_852_38_alg».proof.Proof.BodyInvVC1K
import Idealize.ShloMosaic.Lib.Writes
import Idealize.ShloMosaic.Lib.ValueIdx

noncomputable section

/-!
# The inner loops' trips against the invariant with the contents named

While a slot of the row scratch holds the 128 table rows its index chunk names, one trip of that slot's inner loop
adds one row to "the rows of the slot of the output scratch already summed hold the tree sums of their 32 table rows".
-/

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KB (tree32)

variable {F : FTy → Type}

variable [FloatOps F]
variable {U : Type} [URA U] [CountersIn U]

local notation "𝕄" => MT nD τ sig (HIx 3) (Elt F) ℕ U ℕ
local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

section Inner
variable (d : Dev nD) (L : grid3.Coords)
variable (Tx : S10000x128.Idx → Elt F .f32) (Ix : S32x10496.Idx → Elt F .i32)

/-- One trip of slot 0's inner loop against the invariant "the rows already summed hold their sums": the trip's row gets
    the tree of its 32 rows of the row scratch, which under `RowsOK` are the table rows the index chunk names. -/
theorem inner_region0 (n : ℕ) (h : Buf (Elt F) ((V d (cV L) (jV L)).loc cc3_scratch1)) (hr : RowsOK L Tx Ix (0 : Fin 2) n h)
    (k : Fin k3_t1_loop.trips) (v2 : BitVec 32) (kk : Fin k3_t2_loop.trips) (x : PUnit) :
    innerInv0 d L Tx Ix (Finset.univ \ (obK1).view.set) n h kk.val x
      ⊢ (wp frame (wpE (defs₀ (F := F)) 𝒱₀ (V d (cV L) (jV L)) none) Set.univ
          (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k kk x)
          (fun y => innerInv0 d L Tx Ix (Finset.univ \ (obK1).view.set) n h (kk.val + 1) y) : sProp 𝕄) := by
  cases x
  unfold innerInv0
  iintro ⟨%fob', %hs, Hrw, Hob⟩
  iapply (wp_wand_r frame _ Set.univ)
  isplitl [Hrw Hob]
  · iapply (inner_trip0 d L k kk h fob' v2)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k2_lt kk⟩ : Fin 4) := Fin.ext hrk
        subst er
        refine (p1 g l).trans ?_
        unfold scrSum rowSum
        refine congrArg Cert.Proof.KB.tree32 (funext fun q => ?_)
        show h (ix3 (0 : Fin 2) (⟨32 * kk.val + q.val, by have := k2_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k2_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

/-- One trip of slot 0's inner loop against the invariant "the rows already summed hold their sums": the trip's row gets
    the tree of its 32 rows of the row scratch, which under `RowsOK` are the table rows the index chunk names. -/
theorem inner_region0_first (n : ℕ) (h : Buf (Elt F) ((V d (cV L) (jV L)).loc cc3_scratch1)) (hr : RowsOK L Tx Ix (0 : Fin 2) n h)
    (k : Fin k3_t1_loop.trips) (v2 : BitVec 32) (kk : Fin k3_t2_loop.trips) (x : PUnit) :
    innerInv0 d L Tx Ix (Finset.univ) n h kk.val x
      ⊢ (wp frame (wpE (defs₀ (F := F)) 𝒱₀ (V d (cV L) (jV L)) none) Set.univ
          (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k kk x)
          (fun y => innerInv0 d L Tx Ix (Finset.univ) n h (kk.val + 1) y) : sProp 𝕄) := by
  cases x
  unfold innerInv0
  iintro ⟨%fob', %hs, Hrw, Hob⟩
  iapply (wp_wand_r frame _ Set.univ)
  isplitl [Hrw Hob]
  · iapply (inner_trip0_first d L k kk h fob' v2)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k2_lt kk⟩ : Fin 4) := Fin.ext hrk
        subst er
        refine (p1 g l).trans ?_
        unfold scrSum rowSum
        refine congrArg Cert.Proof.KB.tree32 (funext fun q => ?_)
        show h (ix3 (0 : Fin 2) (⟨32 * kk.val + q.val, by have := k2_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k2_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

/-- One trip of slot 1's inner loop against the invariant "the rows already summed hold their sums": the trip's row gets
    the tree of its 32 rows of the row scratch, which under `RowsOK` are the table rows the index chunk names. -/
theorem inner_region1 (n : ℕ) (h : Buf (Elt F) ((V d (cV L) (jV L)).loc cc3_scratch1)) (hr : RowsOK L Tx Ix (1 : Fin 2) n h)
    (k : Fin k3_t1_loop.trips) (v2 : BitVec 32) (arg11 : BitVec 32) (kk : Fin k3_t3_loop.trips) (x : PUnit) :
    innerInv1 d L Tx Ix n h kk.val x
      ⊢ (wp frame (wpE (defs₀ (F := F)) 𝒱₀ (V d (cV L) (jV L)) none) Set.univ
          (k3_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k arg11 kk x)
          (fun y => innerInv1 d L Tx Ix n h (kk.val + 1) y) : sProp 𝕄) := by
  cases x
  unfold innerInv1
  iintro ⟨%fob', %hs, Hrw, Hob⟩
  iapply (wp_wand_r frame _ Set.univ)
  isplitl [Hrw Hob]
  · iapply (inner_trip1 d L k kk h fob' v2 arg11)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k3_lt kk⟩ : Fin 4) := Fin.ext hrk
        subst er
        refine (p1 g l).trans ?_
        unfold scrSum rowSum
        refine congrArg Cert.Proof.KB.tree32 (funext fun q => ?_)
        show h (ix3 (1 : Fin 2) (⟨32 * kk.val + q.val, by have := k3_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k3_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

end Inner

end Cert.Proof.TileB1

end
-- ==== Proof.GatherReadC1K.lean ====
/-
  What an indirect gather of 128 rows of the table leaves in its destination, read at an index.

  The gather's destination is a [128,128] slot; entry p of the 128-entry offset list names a row of the [10000,128]
  table; after the gather, row p of the destination is that row of the table: the element at (p, j) is the table's
  element at (offs[p], j).
-/
import proofs.«205366_g3083786518796_cont_9to1_852_38_alg».proof.Proof.Gen.Kernel
import Idealize.ShloMosaic.Lib.SparseCore.Stream
import Idealize.ShloMosaic.Lib.ValueIdx
import proofs.«205366_g3083786518796_cont_9to1_852_38_alg».proof.Proof.ScTileParts1K

noncomputable section

namespace Cert.Proof.GatherReadB1

open Cert.Kernel Cert.Kernel.Gen
open Idealize.ShloMosaic Idealize.ShloMosaic.ValueIdx

variable {F : FTy → Type}

/-- The row the offset list names for destination row `p`: entry `p` of the list (a rank-one list's `p`-th word in
    row-major order is its `p`-th word). -/
theorem rows_apply (offs : S128.Idx → Elt F .i32) (hn : S128.numel = S128x128.size (gathers_S10000x128_S128x128).axis')
    (hin : ∀ x, (offs x).toNat < S10000x128.size (gathers_S10000x128_S128x128).axis) (p : Fin 128) :
    (SparseCore.rows (F := F) offs hn hin p).val = (offs (ix1 p)).toNat := by
  unfold SparseCore.rows
  show (offs (S128.rowMajor.symm (Fin.cast hn.symm p))).toNat = _
  congr 2
  apply S128.rowMajor.injective
  rw [Equiv.apply_symm_apply]
  apply Fin.ext
  rw [Shape.rowMajor_val_one]
  rfl

/-- THE GATHER'S PAYLOAD AT AN INDEX: element (p, j) of the destination is the table's element at (offs[p], j). -/
theorem gatherPayload_apply (Tx : S10000x128.Idx → Elt F .f32) (offs : S128.Idx → Elt F .i32)
    (hn : S128.numel = S128x128.size (gathers_S10000x128_S128x128).axis')
    (hin : ∀ x, (offs x).toNat < S10000x128.size (gathers_S10000x128_S128x128).axis) (p j : Fin 128) :
    SparseCore.gatherPayload (F := F) gathers_S10000x128_S128x128 Tx (SparseCore.rows (F := F) offs hn hin) (ix2 p j)
      = Tx (ix2 (⟨(offs (ix1 p)).toNat, hin _⟩ : Fin 10000) j) := by
  unfold SparseCore.gatherPayload
  congr 1
  funext b
  refine Fin.ext ?_
  match b with
  | ⟨0, _⟩ =>
    show ((gathers_S10000x128_S128x128).idx (SparseCore.rows (F := F) offs hn hin) (ix2 p j) (gathers_S10000x128_S128x128).axis).val = _
    rw [Shape.Gathers.idx_axis]
    exact rows_apply offs hn hin p
  | ⟨1, _⟩ =>
    exact Shape.Gathers.idx_of_ne gathers_S10000x128_S128x128 _ (ix2 p j) (⟨1, by decide⟩ : Fin S10000x128.rank) (by decide)

/-! ## The offsets the kernel gathers by: a window of the index scratch, which holds the worker's row of the index table -/

/-- The `n`-th window of 128 entries of the index scratch, read at entry `p`: entry `128·n + p` of the scratch. -/
theorem ixWin_read (n : ℕ) (h : ∀ a, (![128 * n] : Fin 1 → ℕ) a + S128.size a ≤ S10496.size a) (g : S10496.Idx → Elt F .i32)
    (p : Fin 128) (hp : 128 * n + p.val < 10496) :
    (Cert.Proof.TileB1.ixWinK n h).view.read (Elt F) g (ix1 p) = g (ix1 (⟨128 * n + p.val, hp⟩ : Fin 10496)) := by
  rw [View.read_apply]
  show g ((Rect.unit (s := S10496) ![128 * n] S128.size h).emb (ix1 p)) = _
  congr 1
  funext a
  refine Fin.ext ?_
  match a with
  | ⟨0, _⟩ =>
    rw [Rect.emb_apply]
    show 128 * n + 1 * p.val = 128 * n + p.val
    omega

/-- THE GATHER OF A WINDOW, AT AN INDEX: with the index scratch holding the worker's row of the index table `Ix` and
    the offsets its `n`-th window, element (p, j) of the destination is the table's element at the row that entry
    `128·n + p` of the worker's row names, lane j. -/
theorem gather_window_apply (L : grid3.Coords) (Tx : S10000x128.Idx → Elt F .f32) (Ix : S32x10496.Idx → BitVec 32)
    (n : ℕ) (h : ∀ a, (![128 * n] : Fin 1 → ℕ) a + S128.size a ≤ S10496.size a)
    (hn : S128.numel = S128x128.size (gathers_S10000x128_S128x128).axis')
    (hin : ∀ x, ((Cert.Proof.TileB1.ixWinK n h).view.read (Elt F) ((Cert.Proof.TileB1.iRowK L).view.read (Elt F) Ix) x).toNat
      < S10000x128.size (gathers_S10000x128_S128x128).axis)
    (p j : Fin 128) (hp : 128 * n + p.val < 10496) (hr : (Ix (ix2 (Cert.Proof.KB.wid (Cert.Proof.KB.cL1 L) (Cert.Proof.KB.jL1 L)) (⟨128 * n + p.val, hp⟩ : Fin 10496))).toNat < 10000) :
    SparseCore.gatherPayload (F := F) gathers_S10000x128_S128x128 Tx
        (SparseCore.rows (F := F) ((Cert.Proof.TileB1.ixWinK n h).view.read (Elt F) ((Cert.Proof.TileB1.iRowK L).view.read (Elt F) Ix)) hn hin) (ix2 p j)
      = Tx (ix2 (⟨(Ix (ix2 (Cert.Proof.KB.wid (Cert.Proof.KB.cL1 L) (Cert.Proof.KB.jL1 L)) (⟨128 * n + p.val, hp⟩ : Fin 10496))).toNat, hr⟩ : Fin 10000) j) := by
  rw [gatherPayload_apply]
  congr 2
  refine Fin.ext ?_
  show ((Cert.Proof.TileB1.ixWinK n h).view.read (Elt F) ((Cert.Proof.TileB1.iRowK L).view.read (Elt F) Ix) (ix1 p)).toNat = _
  rw [ixWin_read n h _ p hp, View.read_apply, Cert.Proof.KB.iRow_emb1 L _ hp]
  rfl

end Cert.Proof.GatherReadB1

end
-- ==== Proof.GSumWindowC1K.lean ====
/-
  The link between one gathered window and the neighbour sums.

  Worker w's output row 320·w + 4·n + r' (n < 80 the window's number, r' < 4) sums, over k < 32, the table rows named
  by entries 32·(4·n + r') + k = 128·n + (32·r' + k) of the worker's index row: entries 32·r' + k of the n-th window
  of 128.  So when a slot holds the n-th window's gather — its row p the table row that entry 128·n + p names — the
  output row is the tree sum of the slot's rows 32·r' … 32·r' + 31, lane by lane.
-/
import proofs.«205366_g3083786518796_cont_9to1_852_38_alg».proof.Proof.GSumK
import proofs.«205366_g3083786518796_cont_9to1_852_38_alg».proof.Proof.GatherReadC1K

noncomputable section

namespace Cert.Proof.KB

open Cert.Kernel
open Idealize.ShloMosaic Idealize.ShloMosaic.ValueIdx

variable {F : FTy → Type} [FloatOps F]

/-- THE WINDOW'S SUMS: a slot holding the `n`-th window's gather gives rows 4·n … 4·n + 3 of the worker's neighbour sums
    as the tree sums of its four groups of 32 rows. -/
theorem gsumF_window1 (Tx : S10000x128.Idx → F .f32) (Ix : S32x10496.Idx → BitVec 32) (w : Fin 32) (n : ℕ) (hn : n < 80)
    (slot : S128x128.Idx → F .f32) (hin : ∀ k : Fin 10496, (Ix (ix2 w k)).toNat < 10000)
    (hslot : ∀ (p j : Fin 128), slot (ix2 p j)
      = Tx (ix2 (⟨(Ix (ix2 w (⟨128 * n + p.val, by omega⟩ : Fin 10496))).toNat, hin _⟩ : Fin 10000) j))
    (r' : Fin 4) (j : Fin 128) :
    gsumF Tx Ix (ix2 (⟨320 * w.val + 4 * n + r'.val, by omega⟩ : Fin 10240) j)
      = tree32 fun k : Fin 32 => slot (ix2 (⟨32 * r'.val + k.val, by omega⟩ : Fin 128) j) := by
  have e1 : (320 * w.val + 4 * n + r'.val) / 320 = w.val := by omega
  have e2 : (320 * w.val + 4 * n + r'.val) % 320 = 4 * n + r'.val := by omega
  show (tree32 fun k : Fin 32 =>
    Tx (ix2
      ⟨(Ix (ix2 ⟨(320 * w.val + 4 * n + r'.val) / 320, by omega⟩
          ⟨32 * ((320 * w.val + 4 * n + r'.val) % 320) + k.val, by omega⟩)).toNat % 10000, Nat.mod_lt _ (by decide)⟩ j)) = _
  congr 1
  funext k
  rw [hslot]
  have hI : Ix (ix2 (⟨(320 * w.val + 4 * n + r'.val) / 320, by omega⟩ : Fin 32)
        (⟨32 * ((320 * w.val + 4 * n + r'.val) % 320) + k.val, by omega⟩ : Fin 10496))
      = Ix (ix2 w (⟨128 * n + (32 * r'.val + k.val), by omega⟩ : Fin 10496)) := by
    congr 1
    have ha : (⟨(320 * w.val + 4 * n + r'.val) / 320, by omega⟩ : Fin 32) = w := Fin.ext e1
    have hb : (⟨32 * ((320 * w.val + 4 * n + r'.val) % 320) + k.val, by omega⟩ : Fin 10496) = ⟨128 * n + (32 * r'.val + k.val), by omega⟩ :=
      Fin.ext (by show 32 * ((320 * w.val + 4 * n + r'.val) % 320) + k.val = 128 * n + (32 * r'.val + k.val); omega)
    rw [ha, hb]
  congr 2
  refine Fin.ext ?_
  show (Ix (ix2 (⟨(320 * w.val + 4 * n + r'.val) / 320, by omega⟩ : Fin 32)
        (⟨32 * ((320 * w.val + 4 * n + r'.val) % 320) + k.val, by omega⟩ : Fin 10496))).toNat % 10000 = _
  rw [hI, Nat.mod_eq_of_lt (hin _)]

/-- The same at lane `16·g + l` of the eight 16-lane groups of a row (the form the vector unit's additions have). -/
theorem gsumF_window_lanes1 (Tx : S10000x128.Idx → F .f32) (Ix : S32x10496.Idx → BitVec 32) (w : Fin 32) (n : ℕ) (hn : n < 80)
    (slot : S128x128.Idx → F .f32) (hin : ∀ k : Fin 10496, (Ix (ix2 w k)).toNat < 10000)
    (hslot : ∀ (p j : Fin 128), slot (ix2 p j)
      = Tx (ix2 (⟨(Ix (ix2 w (⟨128 * n + p.val, by omega⟩ : Fin 10496))).toNat, hin _⟩ : Fin 10000) j))
    (r' : Fin 4) (g : Fin 8) (l : Fin 16) :
    gsumF Tx Ix (ix2 (⟨320 * w.val + 4 * n + r'.val, by omega⟩ : Fin 10240) (⟨16 * g.val + l.val, by omega⟩ : Fin 128))
      = tree32 fun k : Fin 32 => slot (ix2 (⟨32 * r'.val + k.val, by omega⟩ : Fin 128) (⟨16 * g.val + l.val, by omega⟩ : Fin 128)) :=
  gsumF_window1 Tx Ix w n hn slot hin hslot r' _

/-- THE CHUNK'S VALUES: the result chunk of trip `t`, slot `b` is rows 4·n … 4·n + 3 (n = 2·t + b) of the worker's
    rows; contents that hold, at each of these four rows, the tree sums of the slot's groups of 32 rows — the slot
    holding the n-th window's gather — are the neighbour sums on the chunk. -/
theorem chunk_val1 (L : grid3.Coords) (t : Fin k3_t1_loop.trips) (b : Fin 2) (Tx : S10000x128.Idx → F .f32) (Ix : S32x10496.Idx → BitVec 32)
    (f : S10240x128.Idx → F .f32) (slot : S128x128.Idx → F .f32)
    (hin : ∀ k : Fin 10496, (Ix (ix2 (wid (cL1 L) (jL1 L)) k)).toNat < 10000)
    (hslot : ∀ (p j : Fin 128), slot (ix2 p j)
      = Tx (ix2 (⟨(Ix (ix2 (wid (cL1 L) (jL1 L)) (⟨128 * (2 * t.val + b.val) + p.val, by
          have := lt_of_lt_of_eq t.isLt Cert.Proof.TileB1.trips_eq; omega⟩ : Fin 10496))).toNat, hin _⟩ : Fin 10000) j))
    (hf : ∀ (r' : Fin 4) (j : Fin 128),
      f (ix2 (⟨320 * (wid (cL1 L) (jL1 L)).val + 4 * (2 * t.val + b.val) + r'.val, by
          have := lt_of_lt_of_eq t.isLt Cert.Proof.TileB1.trips_eq; omega⟩ : Fin 10240) j)
        = tree32 fun k : Fin 32 => slot (ix2 (⟨32 * r'.val + k.val, by omega⟩ : Fin 128) j)) :
    ∀ x ∈ Cert.Proof.TileB1.oChunkSet L t b, f x = gsumF Tx Ix x := by
  intro x hx
  have ht : t.val < 40 := lt_of_lt_of_eq t.isLt Cert.Proof.TileB1.trips_eq
  have hb := b.isLt
  rw [Cert.Proof.TileB1.mem_oChunkSet] at hx
  obtain ⟨a, j, rfl⟩ : ∃ (a : Fin 10240) (j : Fin 128), x = ix2 a j := ⟨x 0, x 1, eq_ix2 x⟩
  have hw : (wid (cL1 L) (jL1 L)).val = 2 * (L 1).val + (L 0).val := rfl
  have hx' : 640 * (L 1).val + 320 * (L 0).val + 8 * t.val + 4 * b.val ≤ a.val
      ∧ a.val < 640 * (L 1).val + 320 * (L 0).val + 8 * t.val + 4 * b.val + 4 := hx
  have hr : a.val - (320 * (wid (cL1 L) (jL1 L)).val + 4 * (2 * t.val + b.val)) < 4 := by omega
  have e : (ix2 a j : S10240x128.Idx) = ix2 (⟨320 * (wid (cL1 L) (jL1 L)).val + 4 * (2 * t.val + b.val)
      + (⟨a.val - (320 * (wid (cL1 L) (jL1 L)).val + 4 * (2 * t.val + b.val)), hr⟩ : Fin 4).val, by omega⟩ : Fin 10240) j := by
    congr 1
    exact Fin.ext (by
      show a.val = 320 * (wid (cL1 L) (jL1 L)).val + 4 * (2 * t.val + b.val) + (a.val - (320 * (wid (cL1 L) (jL1 L)).val + 4 * (2 * t.val + b.val)))
      omega)
  rw [e, hf, gsumF_window1 Tx Ix (wid (cL1 L) (jL1 L)) (2 * t.val + b.val) (by omega) slot hin hslot]

end Cert.Proof.KB

end
-- ==== Proof.BodyStepsVC1K.lean ====
/-
  The value steps of the gather-sum trips, as pure facts about the contents the transfers leave: a slot of the row scratch
  after its gather holds the table rows its index window names; a result chunk after its copy-out holds its rows of the
  neighbour-sum array when the result scratch's slot held the tree sums.
-/
import proofs.«205366_g3083786518796_cont_9to1_852_38_alg».proof.Proof.BodyLemmasC1K
import proofs.«205366_g3083786518796_cont_9to1_852_38_alg».proof.Proof.BodyInvVC1K
import proofs.«205366_g3083786518796_cont_9to1_852_38_alg».proof.Proof.GatherReadC1K
import proofs.«205366_g3083786518796_cont_9to1_852_38_alg».proof.Proof.GSumWindowC1K

noncomputable section

namespace Cert.Proof.TileB1

open Cert.Kernel Cert.Kernel.Gen
open Idealize.ShloMosaic
open Idealize.ShloMosaic.ValueIdx (ix1 ix2 ix3)

variable {F : FTy → Type}

/-! ## The views' placements -/

/-- Slot 0 of the row scratch: its element (r, j) is the scratch's element (0, r, j). -/
theorem rwK0_emb (r j : Fin 128) : (rwK0).view.emb (ix2 r j : S128x128.Idx) = (ix3 (0 : Fin 2) r j : S2x128x128.Idx) := by
  have hk : Shape.reshapeEquiv (s := S1x128x128) (s' := S128x128) (squeezes_S1x128x128_S128x128).numel_eq (ix2 r j : S128x128.Idx)
      = (ix3 (0 : Fin 1) r j : S1x128x128.Idx) :=
    Shape.reshapeEquiv_eq_of_rowMajor _ (by
      show ((⟨3, ![1, 128, 128]⟩ : Shape).rowMajor (ix3 (0 : Fin 1) r j) : ℕ) = ((⟨2, ![128, 128]⟩ : Shape).rowMajor (ix2 r j) : ℕ)
      rw [Shape.rowMajor_val_three, Shape.rowMajor_val_two]; simp)
  show (Rect.unit (s := S2x128x128) ![0, 0, 0] S1x128x128.size inb_S2x128x128_S1x128x128_0_0_0).emb
    (Shape.reshapeEquiv (s := S1x128x128) (s' := S128x128) (squeezes_S1x128x128_S128x128).numel_eq (ix2 r j : S128x128.Idx)) = _
  rw [hk]
  funext a
  refine Fin.ext ?_
  match a with
  | ⟨0, _⟩ => show 0 + 1 * 0 = 0; rfl
  | ⟨1, _⟩ => show 0 + 1 * r.val = r.val; omega
  | ⟨2, _⟩ => show 0 + 1 * j.val = j.val; omega

/-- Slot 1 of the row scratch. -/
theorem rwK1_emb (r j : Fin 128) : (rwK1).view.emb (ix2 r j : S128x128.Idx) = (ix3 (1 : Fin 2) r j : S2x128x128.Idx) := by
  have hk : Shape.reshapeEquiv (s := S1x128x128) (s' := S128x128) (squeezes_S1x128x128_S128x128).numel_eq (ix2 r j : S128x128.Idx)
      = (ix3 (0 : Fin 1) r j : S1x128x128.Idx) :=
    Shape.reshapeEquiv_eq_of_rowMajor _ (by
      show ((⟨3, ![1, 128, 128]⟩ : Shape).rowMajor (ix3 (0 : Fin 1) r j) : ℕ) = ((⟨2, ![128, 128]⟩ : Shape).rowMajor (ix2 r j) : ℕ)
      rw [Shape.rowMajor_val_three, Shape.rowMajor_val_two]; simp)
  show (Rect.unit (s := S2x128x128) ![1, 0, 0] S1x128x128.size inb_S2x128x128_S1x128x128_1_0_0).emb
    (Shape.reshapeEquiv (s := S1x128x128) (s' := S128x128) (squeezes_S1x128x128_S128x128).numel_eq (ix2 r j : S128x128.Idx)) = _
  rw [hk]
  funext a
  refine Fin.ext ?_
  match a with
  | ⟨0, _⟩ => show 1 + 1 * 0 = 1; rfl
  | ⟨1, _⟩ => show 0 + 1 * r.val = r.val; omega
  | ⟨2, _⟩ => show 0 + 1 * j.val = j.val; omega

/-- The shared table addressed whole reads the table. -/
theorem shAll_read (Tx : S10000x128.Idx → Elt F .f32) (x : S10000x128.Idx) : (shAllK).view.read (Elt F) Tx x = Tx x := by
  rw [View.read_apply]
  show Tx ((Rect.unit (s := S10000x128) ![0, 0] S10000x128.size inb_S10000x128_S10000x128_0_0).emb x) = Tx x
  congr 1
  funext a
  refine Fin.ext ?_
  match a with
  | ⟨0, _⟩ => show 0 + 1 * (x 0).val = (x 0).val; omega
  | ⟨1, _⟩ => show 0 + 1 * (x 1).val = (x 1).val; omega

/-! ## A slot after its gather -/

section Steps

variable (L : grid3.Coords) (Tx : S10000x128.Idx → Elt F .f32) (Ix : S32x10496.Idx → Elt F .i32)

/-- Writing a whole slot of the row scratch, read back at the slot's element. -/
theorem write_rwK0 (g : S2x128x128.Idx → Elt F .f32) (P : S128x128.Idx → Elt F .f32) (r j : Fin 128) :
    View.write (Elt F) (rwK0).view g P Finset.univ (ix3 (0 : Fin 2) r j) = P (ix2 r j) := by
  rw [← rwK0_emb r j, View.write_emb, if_pos (Finset.mem_univ _)]; rfl
theorem write_rwK1 (g : S2x128x128.Idx → Elt F .f32) (P : S128x128.Idx → Elt F .f32) (r j : Fin 128) :
    View.write (Elt F) (rwK1).view g P Finset.univ (ix3 (1 : Fin 2) r j) = P (ix2 r j) := by
  rw [← rwK1_emb r j, View.write_emb, if_pos (Finset.mem_univ _)]; rfl

/-- The offsets of the `n`-th window name the rows `idxAt` names. -/
theorem window_row (n : ℕ) (hn : n ≤ 81) (inb : ∀ a, (![128 * n] : Fin 1 → ℕ) a + S128.size a ≤ S10496.size a)
    (hin' : ∀ x, (((ixWinK n inb).view.read (Elt F) ((iRowK L).view.read (Elt F) Ix)) x).toNat
      < S10000x128.size (gathers_S10000x128_S128x128).axis) (r : Fin 128) :
    (((ixWinK n inb).view.read (Elt F) ((iRowK L).view.read (Elt F) Ix)) (ix1 r)).toNat = (idxAt L Ix (128 * n + r.val)).val := by
  have hp : 128 * n + r.val < 10496 := by have := r.isLt; omega
  have h1 := hin' (ix1 r)
  rw [Cert.Proof.GatherReadB1.ixWin_read n inb _ r hp] at h1 ⊢
  unfold idxAt
  show _ = ((iRowK L).view.read (Elt F) Ix (ix1 ⟨(128 * n + r.val) % 10496, Nat.mod_lt _ (by decide)⟩)).toNat % 10000
  have e : (⟨(128 * n + r.val) % 10496, Nat.mod_lt _ (by decide)⟩ : Fin 10496) = ⟨128 * n + r.val, hp⟩ := Fin.ext (Nat.mod_eq_of_lt hp)
  have h1' : ((iRowK L).view.read (Elt F) Ix (ix1 (⟨128 * n + r.val, hp⟩ : Fin 10496))).toNat < 10000 := h1
  rw [e, Nat.mod_eq_of_lt h1']

/-- SLOT 0 AFTER ITS GATHER holds the 128 table rows its index window names. -/
theorem rows_ok0 (n : ℕ) (hn : n ≤ 81) (off : Fin 1 → ℕ) (hoff : off = ![128 * n]) (inb : ∀ a, off a + S128.size a ≤ S10496.size a)
    (g : S2x128x128.Idx → Elt F .f32)
    (hnum : S128.numel = S128x128.size (gathers_S10000x128_S128x128).axis')
    (hin' : ∀ x, ((((Memref.whole cc3_scratch0 : Memref sig .scVector .vmem S10496 .i32).slice (Rect.unit (s := S10496) off S128.size inb) (fun _ => rfl)).view.read (Elt F)
        ((iRowK L).view.read (Elt F) Ix)) x).toNat < S10000x128.size (gathers_S10000x128_S128x128).axis) :
    RowsOK L Tx Ix 0 n (View.write (Elt F) (rwK0).view g
      (SparseCore.gatherPayload gathers_S10000x128_S128x128 ((shAllK).view.read (Elt F) Tx)
        (SparseCore.rows (((Memref.whole cc3_scratch0 : Memref sig .scVector .vmem S10496 .i32).slice (Rect.unit (s := S10496) off S128.size inb) (fun _ => rfl)).view.read (Elt F)
          ((iRowK L).view.read (Elt F) Ix)) hnum hin')) Finset.univ) := by
  subst hoff
  intro r j
  rw [write_rwK0, Cert.Proof.GatherReadB1.gatherPayload_apply, shAll_read]
  congr 2
  exact Fin.ext (window_row L Ix n hn inb hin' r)

/-- SLOT 1 AFTER ITS GATHER. -/
theorem rows_ok1 (n : ℕ) (hn : n ≤ 81) (off : Fin 1 → ℕ) (hoff : off = ![128 * n]) (inb : ∀ a, off a + S128.size a ≤ S10496.size a)
    (g : S2x128x128.Idx → Elt F .f32)
    (hnum : S128.numel = S128x128.size (gathers_S10000x128_S128x128).axis')
    (hin' : ∀ x, ((((Memref.whole cc3_scratch0 : Memref sig .scVector .vmem S10496 .i32).slice (Rect.unit (s := S10496) off S128.size inb) (fun _ => rfl)).view.read (Elt F)
        ((iRowK L).view.read (Elt F) Ix)) x).toNat < S10000x128.size (gathers_S10000x128_S128x128).axis) :
    RowsOK L Tx Ix 1 n (View.write (Elt F) (rwK1).view g
      (SparseCore.gatherPayload gathers_S10000x128_S128x128 ((shAllK).view.read (Elt F) Tx)
        (SparseCore.rows (((Memref.whole cc3_scratch0 : Memref sig .scVector .vmem S10496 .i32).slice (Rect.unit (s := S10496) off S128.size inb) (fun _ => rfl)).view.read (Elt F)
          ((iRowK L).view.read (Elt F) Ix)) hnum hin')) Finset.univ) := by
  subst hoff
  intro r j
  rw [write_rwK1, Cert.Proof.GatherReadB1.gatherPayload_apply, shAll_read]
  congr 2
  exact Fin.ext (window_row L Ix n hn inb hin' r)

end Steps

/-! ## A result chunk after its copy-out -/

/-- Slot 0 / 1 of the result scratch: element (r', j) is the scratch's element (b, r', j). -/
theorem obK0_emb (r' : Fin 4) (j : Fin 128) : (obK0).view.emb (ix2 r' j : S4x128.Idx) = (ix3 (0 : Fin 2) r' j : S2x4x128.Idx) := by
  have hk : Shape.reshapeEquiv (s := S1x4x128) (s' := S4x128) (squeezes_S1x4x128_S4x128).numel_eq (ix2 r' j : S4x128.Idx)
      = (ix3 (0 : Fin 1) r' j : S1x4x128.Idx) :=
    Shape.reshapeEquiv_eq_of_rowMajor _ (by
      show ((⟨3, ![1, 4, 128]⟩ : Shape).rowMajor (ix3 (0 : Fin 1) r' j) : ℕ) = ((⟨2, ![4, 128]⟩ : Shape).rowMajor (ix2 r' j) : ℕ)
      rw [Shape.rowMajor_val_three, Shape.rowMajor_val_two]; simp)
  show (Rect.unit (s := S2x4x128) ![0, 0, 0] S1x4x128.size inb_S2x4x128_S1x4x128_0_0_0).emb
    (Shape.reshapeEquiv (s := S1x4x128) (s' := S4x128) (squeezes_S1x4x128_S4x128).numel_eq (ix2 r' j : S4x128.Idx)) = _
  rw [hk]
  funext a
  refine Fin.ext ?_
  match a with
  | ⟨0, _⟩ => show 0 + 1 * 0 = 0; rfl
  | ⟨1, _⟩ => show 0 + 1 * r'.val = r'.val; omega
  | ⟨2, _⟩ => show 0 + 1 * j.val = j.val; omega
theorem obK1_emb (r' : Fin 4) (j : Fin 128) : (obK1).view.emb (ix2 r' j : S4x128.Idx) = (ix3 (1 : Fin 2) r' j : S2x4x128.Idx) := by
  have hk : Shape.reshapeEquiv (s := S1x4x128) (s' := S4x128) (squeezes_S1x4x128_S4x128).numel_eq (ix2 r' j : S4x128.Idx)
      = (ix3 (0 : Fin 1) r' j : S1x4x128.Idx) :=
    Shape.reshapeEquiv_eq_of_rowMajor _ (by
      show ((⟨3, ![1, 4, 128]⟩ : Shape).rowMajor (ix3 (0 : Fin 1) r' j) : ℕ) = ((⟨2, ![4, 128]⟩ : Shape).rowMajor (ix2 r' j) : ℕ)
      rw [Shape.rowMajor_val_three, Shape.rowMajor_val_two]; simp)
  show (Rect.unit (s := S2x4x128) ![1, 0, 0] S1x4x128.size inb_S2x4x128_S1x4x128_1_0_0).emb
    (Shape.reshapeEquiv (s := S1x4x128) (s' := S4x128) (squeezes_S1x4x128_S4x128).numel_eq (ix2 r' j : S4x128.Idx)) = _
  rw [hk]
  funext a
  refine Fin.ext ?_
  match a with
  | ⟨0, _⟩ => show 1 + 1 * 0 = 1; rfl
  | ⟨1, _⟩ => show 0 + 1 * r'.val = r'.val; omega
  | ⟨2, _⟩ => show 0 + 1 * j.val = j.val; omega

section Chunk

variable (L : grid3.Coords) (Tx : S10000x128.Idx → Elt F .f32) (Ix : S32x10496.Idx → Elt F .i32)

/-- The result chunk of trip `t`, slot `b`: its element (r', j) is the output's element at row 640·(L 1) + 320·(L 0) + 8·t + 4·b + r'. -/
theorem oChunk_emb (t : Fin k3_t1_loop.trips) (b : Fin 2) (r' : Fin 4) (j : Fin 128)
    (h : 640 * (L 1).val + 320 * (L 0).val + 8 * t.val + 4 * b.val + r'.val < 10240) :
    (oChunkK L t b).view.emb (ix2 r' j : S4x128.Idx)
      = (ix2 (⟨640 * (L 1).val + 320 * (L 0).val + 8 * t.val + 4 * b.val + r'.val, h⟩ : Fin 10240) j : S10240x128.Idx) := by
  show (Rect.unit (s := S10240x128) (k3_off20 L t (BitVec.ofNat 32 b.val)) S4x128.size (k3_off20_inb L t b)).emb (ix2 r' j : S4x128.Idx) = _
  have h1 := k3_off20_eq L t b
  funext a
  refine Fin.ext ?_
  rw [Rect.emb_apply]
  match a with
  | ⟨0, _⟩ =>
    show (k3_off20 L t (BitVec.ofNat 32 b.val)) 0 + 1 * r'.val = 640 * (L 1).val + 320 * (L 0).val + 8 * t.val + 4 * b.val + r'.val
    rw [h1]; simp
  | ⟨1, _⟩ =>
    show (k3_off20 L t (BitVec.ofNat 32 b.val)) 1 + 1 * j.val = j.val
    rw [h1]; simp

variable [FloatOps F]

/-- A row's sum as the kernel's invariant names it is that row of the neighbour-sum array. -/
theorem rowSum_eq (m : ℕ) (hm : m < 320) (j : Fin 128) :
    rowSum L Tx Ix m j
      = Cert.Proof.KB.gsumF (F := F) Tx Ix (ix2 (⟨320 * (2 * (L 1).val + (L 0).val) + m, by
          have h1 : (L 1).val < 16 := (L 1).isLt
          have h0 : (L 0).val < 2 := (L 0).isLt
          omega⟩ : Fin 10240) j) := by
  have h1 : (L 1).val < 16 := (L 1).isLt
  have h0 : (L 0).val < 2 := (L 0).isLt
  have e1 : (320 * (2 * (L 1).val + (L 0).val) + m) / 320 = 2 * (L 1).val + (L 0).val := by omega
  have e2 : (320 * (2 * (L 1).val + (L 0).val) + m) % 320 = m := by omega
  unfold rowSum
  show _ = (Cert.Proof.KB.tree32 fun k : Fin 32 =>
    Tx (ix2
      ⟨(Ix (ix2 ⟨(320 * (2 * (L 1).val + (L 0).val) + m) / 320, by omega⟩
          ⟨32 * ((320 * (2 * (L 1).val + (L 0).val) + m) % 320) + k.val, by omega⟩)).toNat % 10000, Nat.mod_lt _ (by decide)⟩ j))
  congr 1
  funext k
  congr 2
  refine Fin.ext ?_
  unfold idxAt
  show ((iRowK L).view.read (Elt F) Ix (ix1 ⟨(32 * m + k.val) % 10496, Nat.mod_lt _ (by decide)⟩)).toNat % 10000 = _
  have hp : 32 * m + k.val < 10496 := by have := k.isLt; omega
  have e : (⟨(32 * m + k.val) % 10496, Nat.mod_lt _ (by decide)⟩ : Fin 10496) = ⟨32 * m + k.val, hp⟩ := Fin.ext (Nat.mod_eq_of_lt hp)
  rw [e, View.read_apply, Cert.Proof.KB.iRow_emb1 L _ hp]
  show (Ix (ix2 (Cert.Proof.KB.wid (Cert.Proof.KB.cL1 L) (Cert.Proof.KB.jL1 L)) (⟨32 * m + k.val, hp⟩ : Fin 10496))).toNat % 10000 = _
  congr 3
  congr 1
  · exact Fin.ext e1.symm
  · exact Fin.ext (by show 32 * m + k.val = 32 * ((320 * (2 * (L 1).val + (L 0).val) + m) % 320) + k.val; rw [e2])

/-- THE CHUNK OF SLOT 0 AFTER ITS COPY-OUT holds its rows of the neighbour-sum array, when the slot of the result scratch held
    the four tree sums. -/
theorem chunk_ok0 (k : Fin k3_t1_loop.trips) (fc : S10240x128.Idx → Elt F .f32) (fob : S2x4x128.Idx → Elt F .f32)
    (hs : SumsOK L Tx Ix 0 (2 * k.val) 4 fob) :
    ChunkOK L Tx Ix k 0 ((oChunkK L k 0).view.writes (Elt F) fc [⟨Rect.whole S4x128, ReadAs.same.apply ((obK0).view.read (Elt F) fob)⟩]) := by
  intro x hx
  have hk : k.val < 40 := lt_of_lt_of_eq k.isLt trips_eq
  have h1 : (L 1).val < 16 := (L 1).isLt
  have h0 : (L 0).val < 2 := (L 0).isLt
  obtain ⟨y, -, rfl⟩ := Finset.mem_map.mp hx
  obtain ⟨r', j, rfl⟩ : ∃ (r' : Fin 4) (j : Fin 128), y = (ix2 r' j : S4x128.Idx) := ⟨y 0, y 1, ValueIdx.eq_ix2 y⟩
  have h := View.read_writes_cons_emb (Val := Elt F) (oChunkK L k 0).view fc (Rect.whole S4x128)
    (ReadAs.same.apply ((obK0).view.read (Elt F) fob)) [] (ix2 r' j : S4x128.Idx)
  rw [Rect.emb_whole_apply, View.read_apply, ReadAs.apply_same, View.read_apply] at h
  simp only [cast_eq] at h
  have hrow : 640 * (L 1).val + 320 * (L 0).val + 8 * k.val + 4 * (0 : Fin 2).val + r'.val < 10240 := by
    have := r'.isLt; show 640 * (L 1).val + 320 * (L 0).val + 8 * k.val + 4 * 0 + r'.val < 10240; omega
  rw [h, obK0_emb r' j, hs r' j r'.isLt, rowSum_eq L Tx Ix (4 * (2 * k.val) + r'.val) (by have := r'.isLt; omega) j,
    oChunk_emb L k 0 r' j hrow]
  congr 2
  exact Fin.ext (by
    show 320 * (2 * (L 1).val + (L 0).val) + (4 * (2 * k.val) + r'.val) = 640 * (L 1).val + 320 * (L 0).val + 8 * k.val + 4 * 0 + r'.val
    omega)

/-- THE CHUNK OF SLOT 1 AFTER ITS COPY-OUT holds its rows of the neighbour-sum array, when the slot of the result scratch held
    the four tree sums. -/
theorem chunk_ok1 (k : Fin k3_t1_loop.trips) (fc : S10240x128.Idx → Elt F .f32) (fob : S2x4x128.Idx → Elt F .f32)
    (hs : SumsOK L Tx Ix 1 (2 * k.val + 1) 4 fob) :
    ChunkOK L Tx Ix k 1 ((oChunkK L k 1).view.writes (Elt F) fc [⟨Rect.whole S4x128, ReadAs.same.apply ((obK1).view.read (Elt F) fob)⟩]) := by
  intro x hx
  have hk : k.val < 40 := lt_of_lt_of_eq k.isLt trips_eq
  have h1 : (L 1).val < 16 := (L 1).isLt
  have h0 : (L 0).val < 2 := (L 0).isLt
  obtain ⟨y, -, rfl⟩ := Finset.mem_map.mp hx
  obtain ⟨r', j, rfl⟩ : ∃ (r' : Fin 4) (j : Fin 128), y = (ix2 r' j : S4x128.Idx) := ⟨y 0, y 1, ValueIdx.eq_ix2 y⟩
  have h := View.read_writes_cons_emb (Val := Elt F) (oChunkK L k 1).view fc (Rect.whole S4x128)
    (ReadAs.same.apply ((obK1).view.read (Elt F) fob)) [] (ix2 r' j : S4x128.Idx)
  rw [Rect.emb_whole_apply, View.read_apply, ReadAs.apply_same, View.read_apply] at h
  simp only [cast_eq] at h
  have hrow : 640 * (L 1).val + 320 * (L 0).val + 8 * k.val + 4 * (1 : Fin 2).val + r'.val < 10240 := by
    have := r'.isLt; show 640 * (L 1).val + 320 * (L 0).val + 8 * k.val + 4 * 1 + r'.val < 10240; omega
  rw [h, obK1_emb r' j, hs r' j r'.isLt, rowSum_eq L Tx Ix (4 * (2 * k.val + 1) + r'.val) (by have := r'.isLt; omega) j,
    oChunk_emb L k 1 r' j hrow]
  congr 2
  exact Fin.ext (by
    show 320 * (2 * (L 1).val + (L 0).val) + (4 * (2 * k.val + 1) + r'.val) = 640 * (L 1).val + 320 * (L 0).val + 8 * k.val + 4 * 1 + r'.val
    omega)

end Chunk

end Cert.Proof.TileB1

end
-- ==== Proof.BodyTripVC1K.lean ====
/-
  One trip of the gather-sum kernel's forty, with what the buffers hold: from the valued invariant to itself one trip on.
  The slot's gather leaves the table rows its index chunk names; the inner loop leaves the four tree sums; the copy-out's
  chunk holds its rows of the neighbour-sum array.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC1K
import proofs.«205366_g3083786518796_cont_9to1_852_38_alg».proof.Proof.BodyLemmasC1K
import proofs.«205366_g3083786518796_cont_9to1_852_38_alg».proof.Proof.BodyInvC1K
import proofs.«205366_g3083786518796_cont_9to1_852_38_alg».proof.Proof.BodyJoinC1K
import proofs.«205366_g3083786518796_cont_9to1_852_38_alg».proof.Proof.GSumK
import proofs.«205366_g3083786518796_cont_9to1_852_38_alg».proof.Proof.BodyInvVC1K
import proofs.«205366_g3083786518796_cont_9to1_852_38_alg».proof.Proof.BodyTripC1K
import proofs.«205366_g3083786518796_cont_9to1_852_38_alg».proof.Proof.BodyStepVC1K
import proofs.«205366_g3083786518796_cont_9to1_852_38_alg».proof.Proof.BodyInnerVC1K
import proofs.«205366_g3083786518796_cont_9to1_852_38_alg».proof.Proof.BodyStepsVC1K
import Idealize.ShloMosaic.Lib.ValueIdx

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

section Body
variable (d : Dev nD) (L : grid3.Coords)

open Idealize.ShloMosaic.ValueIdx (ix1 ix2 ix3)

set_option maxHeartbeats 8000000 in
/-- The first trip: no copy-out is pending. -/
theorem trip0V (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (HR0f : ∀ (n : ℕ) (h : Buf (Elt F) ((V d (cV L) (jV L)).loc cc3_scratch1)) (_ : RowsOK L Tx Ix 0 n h) (k : Fin k3_t1_loop.trips) (v2 : BitVec 32) (k2 : Fin k3_t2_loop.trips) (x : PUnit),
      innerInv0 (U := U) d L Tx Ix Finset.univ n h k2.val x ⊢ wp frame (wpE (defs₀ (F := F)) 𝒱₀ (V d (cV L) (jV L)) none) Set.univ
        (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k k2 x) (fun y => innerInv0 (U := U) d L Tx Ix Finset.univ n h (k2.val + 1) y))
    (HR0 : ∀ (n : ℕ) (h : Buf (Elt F) ((V d (cV L) (jV L)).loc cc3_scratch1)) (_ : RowsOK L Tx Ix 0 n h) (k : Fin k3_t1_loop.trips) (v2 : BitVec 32) (k2 : Fin k3_t2_loop.trips) (x : PUnit),
      innerInv0 (U := U) d L Tx Ix (Finset.univ \ (obK1).view.set) n h k2.val x ⊢ wp frame (wpE (defs₀ (F := F)) 𝒱₀ (V d (cV L) (jV L)) none) Set.univ
        (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k k2 x) (fun y => innerInv0 (U := U) d L Tx Ix (Finset.univ \ (obK1).view.set) n h (k2.val + 1) y))
    (HR1 : ∀ (n : ℕ) (h : Buf (Elt F) ((V d (cV L) (jV L)).loc cc3_scratch1)) (_ : RowsOK L Tx Ix 1 n h) (k : Fin k3_t1_loop.trips) (v2 arg11 : BitVec 32) (k3 : Fin k3_t3_loop.trips) (x : PUnit),
      innerInv1 (U := U) d L Tx Ix n h k3.val x ⊢ wp frame (wpE (defs₀ (F := F)) 𝒱₀ (V d (cV L) (jV L)) none) Set.univ
        (k3_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k arg11 k3 x) (fun y => innerInv1 (U := U) d L Tx Ix n h (k3.val + 1) y))
    (HG0 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 0 n (View.write (Elt F) (rwK0).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HG1 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 1 n (View.write (Elt F) (rwK1).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HC0 : ∀ (k : Fin k3_t1_loop.trips) (fc : S10240x128.Idx → Elt F .f32) (fob : S2x4x128.Idx → Elt F .f32), SumsOK L Tx Ix 0 (2 * k.val) 4 fob →
      ChunkOK L Tx Ix k 0 ((oChunkK L k 0).view.writes (Elt F) fc [⟨Rect.whole S4x128, ReadAs.same.apply ((obK0).view.read (Elt F) fob)⟩]))
    (HC1 : ∀ (k : Fin k3_t1_loop.trips) (fc : S10240x128.Idx → Elt F .f32) (fob : S2x4x128.Idx → Elt F .f32), SumsOK L Tx Ix 1 (2 * k.val + 1) 4 fob →
      ChunkOK L Tx Ix k 1 ((oChunkK L k 1).view.writes (Elt F) fc [⟨Rect.whole S4x128, ReadAs.same.apply ((obK1).view.read (Elt F) fob)⟩]))
    (O : CellTallies nD τ sig (HIx 3)) (W : Waits sig (HIx 3)) (v2 : BitVec 32)
    (k : Fin k3_t1_loop.trips) (hk : k.val = 0) (x : PUnit) :
    tripInvV (U := U) d L Tx Ix O W k.val x
      ⊢ wp frame (wpE (defs₀ (F := F)) 𝒱₀ (V d (cV L) (jV L)) none) Set.univ
          (k3_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k x)
          fun y => tripInvV (U := U) d L Tx Ix O W (k.val + 1) y := by
  have hc1 := cond1_zero hk
  have hc2 := cond2_zero hk
  have hrow : (k.val + 1 ≠ k.val) := Nat.succ_ne_self _
  unfold tripInvV
  rw [if_pos hk, if_pos hk]
  unfold gFl0 gFl1
  iintro ⟨#Hmw, ⟨%fr0, %fr1, %hrows, ⟨FG0, Hix0⟩, ⟨FG1, Hix1⟩⟩, ⟨%frr, Hrwr⟩, Hsh0, Hsh1, ⟨%fob, Hob, Hso0, Hso1⟩, Hrows, ⟨%W', %hW', HO⟩⟩
  ihave Hr := (Entails.of_eq (SparseCore.bigSep_erase' (Φ := fun t' : Fin k3_t1_loop.trips => rowStV (U := U) (F := F) d L Tx Ix k.val t') (Finset.mem_univ k))) $$ Hrows
  icases Hr with ⟨Hrow, Hrest⟩
  ihave Hrow' := (Entails.of_eq (rowStV_todo (F := F) (U := U) d L Tx Ix hrow (Nat.lt_irrefl _))) $$ Hrow
  icases Hrow' with ⟨⟨%fc0, Hoc0⟩, ⟨%fc1, Hoc1⟩⟩
  unfold k3_t1_body
  -- slot 0: its gather waited for
  sl_exec
  -- slot 0 of the row scratch, back from its gather, joined to what is held of the scratch
  ihave Hj := (pts_joinV (F := F) (U := U) (sdiff_join_disj rw_slots_disjoint) fr0 frr) $$ [FG0_dst Hrwr]
  · isplitl [FG0_dst]; · iexact FG0_dst
    iexact Hrwr
  icases Hj with ⟨%g1, %hg1, Hrw⟩
  have hr1 : RowsOK L Tx Ix 0 (2 * k.val) g1 := RowsOK_of_eq0 (F := F) L Tx Ix hrows.1 hg1
  rw [sdiff_join_left rw_slots_disjoint]
  -- the four sums of slot 0
  sl_for (innerInv0 (U := U) d L Tx Ix Finset.univ (2 * k.val) g1) $$ [Hrw Hob]
  case region =>
    intro k2 x2
    exact HR0f (2 * k.val) g1 hr1 k v2 k2 x2
  · unfold innerInv0
    iexists fob; isplitr; · ipureintro; exact SumsOK_zero (F := F) L Tx Ix 0 _ _
    isplitl [Hrw]; · iexact Hrw
    iexact Hob
  iintro %_ HI
  unfold innerInv0
  icases HI with ⟨%fobA, %hsA, Hrw, Hob⟩
  have hsA4 : SumsOK L Tx Ix 0 (2 * k.val) 4 fobA := hsA
  -- slot 0 copied out, its next gather started; slot 1's gather waited for
  sl_exec
  -- slot 1 of the row scratch joined
  ihave Hj := (pts_joinV (F := F) (U := U) (sdiff_join_disj rw_slots_disjoint.symm) fr1 _) $$ [FG1_dst Hrw]
  · isplitl [FG1_dst]; · iexact FG1_dst
    iexact Hrw
  icases Hj with ⟨%g2, %hg2, Hrw⟩
  have hr2 : RowsOK L Tx Ix 1 (2 * k.val + 1) g2 := RowsOK_of_eq1 (F := F) L Tx Ix hrows.2 hg2
  rw [sdiff_join_left rw_slots_disjoint.symm]
  -- the four sums of slot 1
  sl_for (innerInv1 (U := U) d L Tx Ix (2 * k.val + 1) g2) $$ [Hrw Hob]
  case region =>
    intro k3 x3
    exact HR1 (2 * k.val + 1) g2 hr2 k v2 _ k3 x3
  · unfold innerInv1
    iexists fobA; isplitr; · ipureintro; exact SumsOK_zero (F := F) L Tx Ix 1 _ _
    isplitl [Hrw]; · iexact Hrw
    iexact Hob
  iintro %_ HI
  unfold innerInv1
  icases HI with ⟨%fobB, %hsB, Hrw, Hob⟩
  have hsB4 : SumsOK L Tx Ix 1 (2 * k.val + 1) 4 fobB := hsB
  -- slot 1 copied out, its next gather started
  sl_exec
  sl_step
  -- the invariant, one trip on
  have h40 := lt_of_lt_of_eq k.isLt k3_trips_eq
  have hoff0 : k3_off21 k 0#32 = ![128 * (2 * (k.val + 1))] := by
    have h := k3_off21_eq k (0 : Fin 2)
    rw [show (BitVec.ofNat 32 ((0 : Fin 2) : ℕ)) = 0#32 from rfl] at h
    rw [h]; congr 1; simp; omega
  have hoff1 : k3_off21 k 1#32 = ![128 * (2 * (k.val + 1) + 1)] := by
    have h := k3_off21_eq k (1 : Fin 2)
    rw [show (BitVec.ofNat 32 ((1 : Fin 2) : ℕ)) = 1#32 from rfl] at h
    rw [h]; congr 1; simp; omega
  rw [if_neg (Nat.succ_ne_zero k.val), if_neg (Nat.succ_ne_zero k.val), Nat.add_sub_cancel, tFin_val]
  unfold oFl0 oFl1
  isplitr; · iexact Hmw
  isplitl [FG0 Hix0 FG1 Hix1]
  · iexists _; iexists _
    isplitr
    swap
    · isplitl [FG0 Hix0]
      · isplitl [FG0]; · iexact FG0
        iexact Hix0
      · isplitl [FG1]; · iexact FG1
        iexact Hix1
    ipureintro
    exact ⟨HG0 (2 * (k.val + 1)) (by omega) _ hoff0 _ _ _ _, HG1 (2 * (k.val + 1) + 1) (by omega) _ hoff1 _ _ _ _⟩
  isplitl [Hrw]; · iexists _; iexact Hrw
  isplitl [Hsh0]; · iexact Hsh0
  isplitl [Hsh1]; · iexact Hsh1
  isplitl [Hso0 Hso1 Hob]
  · iexists _; iexists _; iexists _; iexists _; iexists _
    isplitr
    swap
    · isplitl [Hso0]; · iexact Hso0
      isplitl [Hso1]; · iexact Hso1
      iexact Hob
    ipureintro
    exact ⟨HC0 k _ _ hsA4, HC1 k _ _ hsB4⟩
  isplitl [Hrest]; · iapply (rows_step0V (F := F) (U := U) d L Tx Ix k hk); iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
/-- A later trip: the previous trip's two copy-outs are pending. -/
theorem tripSV (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (HR0f : ∀ (n : ℕ) (h : Buf (Elt F) ((V d (cV L) (jV L)).loc cc3_scratch1)) (_ : RowsOK L Tx Ix 0 n h) (k : Fin k3_t1_loop.trips) (v2 : BitVec 32) (k2 : Fin k3_t2_loop.trips) (x : PUnit),
      innerInv0 (U := U) d L Tx Ix Finset.univ n h k2.val x ⊢ wp frame (wpE (defs₀ (F := F)) 𝒱₀ (V d (cV L) (jV L)) none) Set.univ
        (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k k2 x) (fun y => innerInv0 (U := U) d L Tx Ix Finset.univ n h (k2.val + 1) y))
    (HR0 : ∀ (n : ℕ) (h : Buf (Elt F) ((V d (cV L) (jV L)).loc cc3_scratch1)) (_ : RowsOK L Tx Ix 0 n h) (k : Fin k3_t1_loop.trips) (v2 : BitVec 32) (k2 : Fin k3_t2_loop.trips) (x : PUnit),
      innerInv0 (U := U) d L Tx Ix (Finset.univ \ (obK1).view.set) n h k2.val x ⊢ wp frame (wpE (defs₀ (F := F)) 𝒱₀ (V d (cV L) (jV L)) none) Set.univ
        (k3_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 (0#32) (1#32) k k2 x) (fun y => innerInv0 (U := U) d L Tx Ix (Finset.univ \ (obK1).view.set) n h (k2.val + 1) y))
    (HR1 : ∀ (n : ℕ) (h : Buf (Elt F) ((V d (cV L) (jV L)).loc cc3_scratch1)) (_ : RowsOK L Tx Ix 1 n h) (k : Fin k3_t1_loop.trips) (v2 arg11 : BitVec 32) (k3 : Fin k3_t3_loop.trips) (x : PUnit),
      innerInv1 (U := U) d L Tx Ix n h k3.val x ⊢ wp frame (wpE (defs₀ (F := F)) 𝒱₀ (V d (cV L) (jV L)) none) Set.univ
        (k3_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k arg11 k3 x) (fun y => innerInv1 (U := U) d L Tx Ix n h (k3.val + 1) y))
    (HG0 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 0 n (View.write (Elt F) (rwK0).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HG1 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 1 n (View.write (Elt F) (rwK1).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HC0 : ∀ (k : Fin k3_t1_loop.trips) (fc : S10240x128.Idx → Elt F .f32) (fob : S2x4x128.Idx → Elt F .f32), SumsOK L Tx Ix 0 (2 * k.val) 4 fob →
      ChunkOK L Tx Ix k 0 ((oChunkK L k 0).view.writes (Elt F) fc [⟨Rect.whole S4x128, ReadAs.same.apply ((obK0).view.read (Elt F) fob)⟩]))
    (HC1 : ∀ (k : Fin k3_t1_loop.trips) (fc : S10240x128.Idx → Elt F .f32) (fob : S2x4x128.Idx → Elt F .f32), SumsOK L Tx Ix 1 (2 * k.val + 1) 4 fob →
      ChunkOK L Tx Ix k 1 ((oChunkK L k 1).view.writes (Elt F) fc [⟨Rect.whole S4x128, ReadAs.same.apply ((obK1).view.read (Elt F) fob)⟩]))
    (O : CellTallies nD τ sig (HIx 3)) (W : Waits sig (HIx 3)) (v2 : BitVec 32)
    (k : Fin k3_t1_loop.trips) (hk : k.val ≠ 0) (x : PUnit) :
    tripInvV (U := U) d L Tx Ix O W k.val x
      ⊢ wp frame (wpE (defs₀ (F := F)) 𝒱₀ (V d (cV L) (jV L)) none) Set.univ
          (k3_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k x)
          fun y => tripInvV (U := U) d L Tx Ix O W (k.val + 1) y := by
  have hc1 := cond1_pos k hk
  have hc2 := cond2_pos k hk
  have hrow : (k.val + 1 ≠ k.val) := Nat.succ_ne_self _
  unfold tripInvV
  rw [if_neg hk, if_neg hk]
  unfold gFl0 gFl1 oFl0 oFl1
  iintro ⟨#Hmw, ⟨%fr0, %fr1, %hrows, ⟨FG0, Hix0⟩, ⟨FG1, Hix1⟩⟩, ⟨%frr, Hrwr⟩, Hsh0, Hsh1, ⟨%fob, %fc0p, %fc1p, %fob0, %fob1, %hchk, FO0, FO1, Hobr⟩, Hrows, ⟨%W', %hW', HO⟩⟩
  ihave Hr := (Entails.of_eq (SparseCore.bigSep_erase' (Φ := fun t' : Fin k3_t1_loop.trips => rowStV (U := U) (F := F) d L Tx Ix k.val t') (Finset.mem_univ k))) $$ Hrows
  icases Hr with ⟨Hrow, Hrest⟩
  ihave Hrow' := (Entails.of_eq (rowStV_todo (F := F) (U := U) d L Tx Ix hrow (Nat.lt_irrefl _))) $$ Hrow
  icases Hrow' with ⟨⟨%fc0, Hoc0⟩, ⟨%fc1, Hoc1⟩⟩
  unfold k3_t1_body
  -- slot 0: its gather waited for
  sl_exec
  -- slot 0 of the row scratch, back from its gather, joined to what is held of the scratch
  ihave Hj := (pts_joinV (F := F) (U := U) (sdiff_join_disj rw_slots_disjoint) fr0 frr) $$ [FG0_dst Hrwr]
  · isplitl [FG0_dst]; · iexact FG0_dst
    iexact Hrwr
  icases Hj with ⟨%g1, %hg1, Hrw⟩
  have hr1 : RowsOK L Tx Ix 0 (2 * k.val) g1 := RowsOK_of_eq0 (F := F) L Tx Ix hrows.1 hg1
  rw [sdiff_join_left rw_slots_disjoint]
  -- slot 0 of the result scratch, back from its copy-out, joined to what is held of the scratch
  ihave Hjo := (pts_join (F := F) (U := U) (sdiff_join_disj ob_slots_disjoint) fob0 fob) $$ [FO0_src Hobr]
  · isplitl [FO0_src]; · iexact FO0_src
    iexact Hobr
  icases Hjo with ⟨%go1, Hob⟩
  rw [sdiff_join_left ob_slots_disjoint]
  -- the four sums of slot 0
  sl_for (innerInv0 (U := U) d L Tx Ix (Finset.univ \ (obK1).view.set) (2 * k.val) g1) $$ [Hrw Hob]
  case region =>
    intro k2 x2
    exact HR0 (2 * k.val) g1 hr1 k v2 k2 x2
  · unfold innerInv0
    iexists go1; isplitr; · ipureintro; exact SumsOK_zero (F := F) L Tx Ix 0 _ _
    isplitl [Hrw]; · iexact Hrw
    iexact Hob
  iintro %_ HI
  unfold innerInv0
  icases HI with ⟨%fobA, %hsA, Hrw, Hob⟩
  have hsA4 : SumsOK L Tx Ix 0 (2 * k.val) 4 fobA := hsA
  -- slot 0 copied out, its next gather started; slot 1's gather waited for
  sl_exec
  -- slot 1 of the row scratch joined
  ihave Hj := (pts_joinV (F := F) (U := U) (sdiff_join_disj rw_slots_disjoint.symm) fr1 _) $$ [FG1_dst Hrw]
  · isplitl [FG1_dst]; · iexact FG1_dst
    iexact Hrw
  icases Hj with ⟨%g2, %hg2, Hrw⟩
  have hr2 : RowsOK L Tx Ix 1 (2 * k.val + 1) g2 := RowsOK_of_eq1 (F := F) L Tx Ix hrows.2 hg2
  rw [sdiff_join_left rw_slots_disjoint.symm]
  -- slot 1 of the result scratch joined
  ihave Hjo := (pts_join (F := F) (U := U) (sdiff_join_disj ob_slots_disjoint.symm) fob1 _) $$ [FO1_src Hob]
  · isplitl [FO1_src]; · iexact FO1_src
    iexact Hob
  icases Hjo with ⟨%go2, Hob⟩
  rw [sdiff_join_left ob_slots_disjoint.symm]
  -- the four sums of slot 1
  sl_for (innerInv1 (U := U) d L Tx Ix (2 * k.val + 1) g2) $$ [Hrw Hob]
  case region =>
    intro k3 x3
    exact HR1 (2 * k.val + 1) g2 hr2 k v2 _ k3 x3
  · unfold innerInv1
    iexists go2; isplitr; · ipureintro; exact SumsOK_zero (F := F) L Tx Ix 1 _ _
    isplitl [Hrw]; · iexact Hrw
    iexact Hob
  iintro %_ HI
  unfold innerInv1
  icases HI with ⟨%fobB, %hsB, Hrw, Hob⟩
  have hsB4 : SumsOK L Tx Ix 1 (2 * k.val + 1) 4 fobB := hsB
  -- slot 1 copied out, its next gather started
  sl_exec
  sl_step
  -- the invariant, one trip on
  have h40 := lt_of_lt_of_eq k.isLt k3_trips_eq
  have hoff0 : k3_off21 k 0#32 = ![128 * (2 * (k.val + 1))] := by
    have h := k3_off21_eq k (0 : Fin 2)
    rw [show (BitVec.ofNat 32 ((0 : Fin 2) : ℕ)) = 0#32 from rfl] at h
    rw [h]; congr 1; simp; omega
  have hoff1 : k3_off21 k 1#32 = ![128 * (2 * (k.val + 1) + 1)] := by
    have h := k3_off21_eq k (1 : Fin 2)
    rw [show (BitVec.ofNat 32 ((1 : Fin 2) : ℕ)) = 1#32 from rfl] at h
    rw [h]; congr 1; simp; omega
  rw [if_neg (Nat.succ_ne_zero k.val), if_neg (Nat.succ_ne_zero k.val), Nat.add_sub_cancel, tFin_val]

  isplitr; · iexact Hmw
  isplitl [FG0 Hix0 FG1 Hix1]
  · iexists _; iexists _
    isplitr
    swap
    · isplitl [FG0 Hix0]
      · isplitl [FG0]; · iexact FG0
        iexact Hix0
      · isplitl [FG1]; · iexact FG1
        iexact Hix1
    ipureintro
    exact ⟨HG0 (2 * (k.val + 1)) (by omega) _ hoff0 _ _ _ _, HG1 (2 * (k.val + 1) + 1) (by omega) _ hoff1 _ _ _ _⟩
  isplitl [Hrw]; · iexists _; iexact Hrw
  isplitl [Hsh0]; · iexact Hsh0
  isplitl [Hsh1]; · iexact Hsh1
  isplitl [FO0 FO1 Hob]
  · iexists _; iexists _; iexists _; iexists _; iexists _
    isplitr
    swap
    · isplitl [FO0]; · iexact FO0
      isplitl [FO1]; · iexact FO1
      iexact Hob
    ipureintro
    exact ⟨HC0 k _ _ hsA4, HC1 k _ _ hsB4⟩
  isplitl [Hrest FO0_dst FO1_dst]
  · iapply (rows_stepSV (F := F) (U := U) d L Tx Ix k hk fc0p fc1p hchk.1 hchk.2)
    isplitl [Hrest]; · iexact Hrest
    isplitl [FO0_dst]; · iexact FO0_dst
    iexact FO1_dst
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One trip of the forty, with what the buffers hold. -/
theorem trip_regionV (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k3_t1_loop.trips) (x : PUnit) :
    tripInvV (U := U) d L Tx Ix O W k.val x
      ⊢ wp frame (wpE (defs₀ (F := F)) 𝒱₀ (V d (cV L) (jV L)) none) Set.univ
          (k3_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1 v2 k x)
          fun y => tripInvV (U := U) d L Tx Ix O W (k.val + 1) y := by
  by_cases hk : k.val = 0
  · exact trip0V (F := F) (U := U) d L Tx Ix hinR
      (fun n h hr k v2 k2 x => inner_region0_first (F := F) (U := U) d L Tx Ix n h hr k v2 k2 x)
      (fun n h hr k v2 k2 x => inner_region0 (F := F) (U := U) d L Tx Ix n h hr k v2 k2 x)
      (fun n h hr k v2 a k3 x => inner_region1 (F := F) (U := U) d L Tx Ix n h hr k v2 a k3 x)
      (fun n hn off hoff inb g hnum hin' => rows_ok0 (F := F) L Tx Ix n hn off hoff inb g hnum hin')
      (fun n hn off hoff inb g hnum hin' => rows_ok1 (F := F) L Tx Ix n hn off hoff inb g hnum hin')
      (fun k fc fob hs => chunk_ok0 (F := F) L Tx Ix k fc fob hs)
      (fun k fc fob hs => chunk_ok1 (F := F) L Tx Ix k fc fob hs)
      O W v2 k hk x
  · exact tripSV (F := F) (U := U) d L Tx Ix hinR
      (fun n h hr k v2 k2 x => inner_region0_first (F := F) (U := U) d L Tx Ix n h hr k v2 k2 x)
      (fun n h hr k v2 k2 x => inner_region0 (F := F) (U := U) d L Tx Ix n h hr k v2 k2 x)
      (fun n h hr k v2 a k3 x => inner_region1 (F := F) (U := U) d L Tx Ix n h hr k v2 a k3 x)
      (fun n hn off hoff inb g hnum hin' => rows_ok0 (F := F) L Tx Ix n hn off hoff inb g hnum hin')
      (fun n hn off hoff inb g hnum hin' => rows_ok1 (F := F) L Tx Ix n hn off hoff inb g hnum hin')
      (fun k fc fob hs => chunk_ok0 (F := F) L Tx Ix k fc fob hs)
      (fun k fc fob hs => chunk_ok1 (F := F) L Tx Ix k fc fob hs)
      O W v2 k hk x

end Body
end Cert.Proof.TileB1
end
-- ==== Proof.BodyGenC1K.lean ====
/-
  The gather-sum kernel on one vector subcore, stated over ANY schedule of the barrier cells.

  The subcore's run uses the barrier's schedule only through five facts at the call's round: every sibling's cell names
  the subcore as a duty of the round, each such duty is one unit, the subcore's own round expects sixteen units, the
  staged stripe splits into what is kept and what the sixteen duties hand over, and what the subcore's own round
  collects is its read share of the whole shared table.  With these as hypotheses, and the round and the call's number
  as parameters, one text serves every call and whatever schedule the launch fixed.  The forty trips' step is a
  hypothesis too.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC1K
import proofs.«205366_g3083786518796_cont_9to1_852_38_alg».proof.Proof.BodyLemmasC1K
import proofs.«205366_g3083786518796_cont_9to1_852_38_alg».proof.Proof.BodyInvC1K
import proofs.«205366_g3083786518796_cont_9to1_852_38_alg».proof.Proof.BodyJoinC1K

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

section Body
variable (d : Dev nD) (L : grid3.Coords)

/-- The barrier kit over a schedule `Rd`, for round `r` (call `q`): every subcore's cell invariant of its SparseCore, its duty
    token in every subcore's round `r`, that each has reached round `r`, its own position at the origin of round `r`, and
    the credit for the sixteen units of its own round. -/
def bkitR (EB : Emb (URounds (GSem nD τ sig) ℕ) (MT nD τ sig (HIx 3) (Elt F) ℕ U ℕ)) (Rd : Rounds.Schedule (GSem nD τ sig) ℕ 𝕄) (r : ℕ) (q : Fin 3) (d : Dev nD) (c : Fin τ.nSC) (i : Fin τ.nSub) : sProp 𝕄 :=
  iprop((∃ κ : GSem nD τ sig → ℕ, bigSep Finset.univ fun j : Fin (grid3.bound 1) =>
      cellInv EB Rd (κ (bcell d c (j.castLE hsub3))) (bcell d c (j.castLE hsub3)))
    ∗ (bigSep Finset.univ fun j : Fin (grid3.bound 1) => dutyTok EB (bcell d c (j.castLE hsub3)) r i.val)
    ∗ (bigSep Finset.univ fun j : Fin (grid3.bound 1) => reached (D := ℕ) EB (bcell d c (j.castLE hsub3)) r)
    ∗ atPos EB (bcell d c i) r (∅ : Finset ℕ) 0
    ∗ cred (tallyAt (bcell d c i) (some q) (grid3.bound 1)))

set_option maxHeartbeats 4000000 in
/-- The kernel on vector subcore `L`: the index row and the stripe copied in and waited for (the executor); the barrier
    (the stripe's read shares handed over, every stripe's received); the two first gathers; the forty trips (the invariant
    `tripInv`, each trip `trip_region`); the four last waits. -/
theorem tile_body_gen (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid3.bound 1), (jV L).val ∈ Rd.duties (bcell d (cV L) (j.castLE hsub3)) rC)
    (hamt : ∀ j : Fin (grid3.bound 1), Rd.amount (bcell d (cV L) (j.castLE hsub3)) rC (jV L).val = 1)
    (hexp : 0 + grid3.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid3.bound 1) => Rd.payload (bcell d (cV L) (j.castLE hsub3)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (htrip : ∀ (v2 : BitVec 32) (k : Fin k3_t1_loop.trips) (x : PUnit),
      tripInv (F := F) (U := U) d L Tx Ix O
          (insert (SemLoc.reg sc_bar0, some qC) (insert (SemLoc.dma cc3_scoped1.sem, (default : HIx 3)) (insert (SemLoc.dma cc3_scoped0.sem, (default : HIx 3)) W))) k.val x
        ⊢ wp frame (wpE (defs₀ (F := F)) 𝒱₀ (V d (cV L) (jV L)) none) Set.univ
            (k3_t1_body L xV (Memref.isWhole_whole _) iV (Memref.isWhole_whole _) oV (Memref.isWhole_whole _)
              ixV (Memref.isWhole_whole _) rwV (Memref.isWhole_whole _) obV (Memref.isWhole_whole _) shV (Memref.isWhole_whole _)
              cc3_scratch4 cc3_scratch5 cc3_scoped0 cc3_scoped1 v2 k x)
            (tripInv (F := F) (U := U) d L Tx Ix O
              (insert (SemLoc.reg sc_bar0, some qC) (insert (SemLoc.dma cc3_scoped1.sem, (default : HIx 3)) (insert (SemLoc.dma cc3_scoped0.sem, (default : HIx 3)) W))) (k.val + 1)))
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f))
        ∗ (semVal (cell d L cc3_scoped0.sem) 0 ∗ semVal (cell d L cc3_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc3__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1)
          fun _ => iprop(tdT d L qx qi Tx Ix
            ∗ (atPos EB (bcell d (cV L) (jV L)) (rC + 1) (∅ : Finset ℕ) 0 ∗ reached (D := ℕ) EB (bcell d (cV L) (jV L)) (rC + 1))
            ∗ ((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f))
            ∗ (semVal (cell d L cc3_scoped0.sem) 0 ∗ semVal (cell d L cc3_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') := by
  simp only [cc3__sc_gather_sum_eq_skeleton]; unfold cc3__sc_gather_sum_skel
  unfold bkitR goT
  iintro ⟨#Hlv, ⟨⟨%κ, #Hinv⟩, Htoks, #Hrch, Hat, Hcred⟩, ⟨Hx, Hi, Ho, %fsh, Hsh⟩, ⟨⟨%f0, Hb0⟩, ⟨%f1, Hb1⟩, ⟨%f2, Hb2⟩⟩, ⟨HsA, HsB, Hg0, Hg1, Ho0, Ho1⟩, HO⟩
  have hO' : ∀ g, (O + oxV d (cV L) qC) g none = 0 := fun g => by rw [Pi.add_apply, Finsupp.add_apply, hO g, oxV_none]
  ihave Hmw1 := (show levAts (K (F := F)).L (K (F := F)).lev ⊢ Transfers.MayWaits (V d (cV L) (jV L)) (default : HIx 3) (O + oxV d (cV L) qC) from
    (K (F := F)).mayWaits_none (thr := V d (cV L) (jV L)) hO') $$ Hlv
  ihave Hmw2 := (show levAts (K (F := F)).L (K (F := F)).lev ⊢ Transfers.MayWaits (V d (cV L) (jV L)) (default : HIx 3) O from
    (K (F := F)).mayWaits_none (thr := V d (cV L) (jV L)) hO) $$ Hlv
  ihave Hx' := (Entails.of_eq (pts_x (F := F) (U := U) d L _ _).symm) $$ Hx
  ihave Hi' := (Entails.of_eq (pts_iRow (F := F) (U := U) d L _ _).symm) $$ Hi
  ihave Hsh' := (Entails.of_eq (pts_shStripe (F := F) (U := U) d L _ _).symm) $$ Hsh
  ihave Hix' := (Entails.of_eq (pts_ix (F := F) (U := U) d L _).symm) $$ Hb0
  ihave Hrw' := (Entails.of_eq (pts_rw (F := F) (U := U) d L _).symm) $$ Hb1
  ihave Hob' := (Entails.of_eq (pts_ob (F := F) (U := U) d L _).symm) $$ Hb2
  -- the index row into the index scratch, the stripe into the shared table, each waited for
  sl_exec (disch := first | exact View.amount_pos _ _ (stripe_numel_pos L) | exact View.dmaCredit_pos _ (stripe_numel_pos L))
  -- the barrier: the stripe, holding the table's rows, handed over by read shares; every stripe's share received
  unfold tile_body_gen.sl.dma0_1 tile_body_gen.sl.dma0
  ihave Hsh3 := (stripe_fix (F := F) (U := U) d L Tx fsh) $$ Hsh'
  ihave Hpk := hin_pay $$ Hsh3
  icases Hpk with ⟨Hkeep, Hpays⟩
  iapply (SparseCore.wp_subcoreBarrier 𝒱₀ none EB Rd d (sc := cV L) (i := jV L) sc_bar0 (grid3.bound 1) hsub3 (L 1) rfl κ (fun _ => rC) (jV L).val
      hmem hamt hexp (some qC) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) (8 * qC.val + 3) (fun p hp => by
        rw [Finset.mem_singleton] at hp; subst hp
        show (K (F := F)).lev (bcell d (cV L) (jV L)) (some qC) ≤ 8 * qC.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hrch1, Hgot⟩
  ihave Hall := hout_pay $$ Hgot
  -- the index scratch holds row `wid`; every window of it names rows of the table
  ihave Hix2 := (idx_fix (F := F) (U := U) d L Ix f0) $$ Hix'
  have hinR := idx_inb (F := F) L Ix hin
  ihave Hall' := (Entails.of_eq (show ((shV).view.loc (V d (cV L) (jV L)) ↦{shTok (jV L)} Tx : sProp 𝕄) = shLoc d (cV L) ↦{shTok (jV L)} Tx from rfl).symm) $$ Hall
  ihave HallS := (pointsTo_share (PosShare.mem_left_op_right (shTok (jV L)))).1 $$ Hall'
  icases HallS with ⟨HallA, HallB⟩
  ihave HixS := (pointsTo_share (PosShare.mem_left_op_right fullShare)).1 $$ Hix2
  icases HixS with ⟨HixA, HixB⟩
  -- the two first gathers
  sl_exec
  -- the forty trips
  sl_for (tripInv d L Tx Ix O (insert (SemLoc.reg sc_bar0, some qC) (insert (SemLoc.dma cc3_scoped1.sem, (default : HIx 3)) (insert (SemLoc.dma cc3_scoped0.sem, (default : HIx 3)) W)))) $$ [Hmw2 Hg0 Hg1 HixA HixB HallA HallB Hrw' Hob' Ho0 Ho1 Ho HO]
  case region =>
    intro k x
    unfold tile_body_gen.sl.prog.body_1
    exact htrip _ k x
  · unfold tripInv
    simp only [↓reduceIte]
    unfold gFl0 gFl1
    isplitr; · iexact Hmw2
    isplitl [Hg0 Hg1 HixA HixB]
    · iexists _; iexists _
      isplitl [Hg0 HixA]
      · isplitl [Hg0]; · iexact Hg0
        iexact HixA
      · isplitl [Hg1]; · iexact Hg1
        iexact HixB
    isplitl [Hrw']; · iexists _; iexact Hrw'
    isplitl [HallA]; · iexact HallA
    isplitl [HallB]; · iexact HallB
    isplitl [Hob' Ho0 Ho1]
    · iexists _
      isplitl [Hob']; · iexact Hob'
      isplitl [Ho0]; · iexact Ho0
      iexact Ho1
    isplitl [Ho]; · iapply (rows_of_chunks (F := F) (U := U) d L fo); iexact Ho
    iexists _; isplitr
    · ipureintro; exact fun p hp => .inl hp
    · iexact HO
  iintro %_ HI
  have htr : Scf.trips k3_t1_loop.lb k3_t1_loop.ub k3_t1_loop.st = 40 := by decide
  rw [htr]
  unfold tripInv
  simp only [show (40 : ℕ) ≠ 0 by decide, ↓reduceIte, show (40 : ℕ) - 1 = 39 by decide]
  unfold gFl0 gFl1 oFl0 oFl1
  icases HI with ⟨-, ⟨%fr0, %fr1, ⟨FG0, Hix0⟩, ⟨FG1, Hix1⟩⟩, ⟨%frr, Hrwr⟩, Hsh0, Hsh1, ⟨%fob, %fc0, %fc1, %fob0, %fob1, FO0, FO1, Hobr⟩, Hrows, ⟨%W', %hW', HO⟩⟩
  sl_exec
  sl_step
  unfold tdT
  -- the table's and the index row's shares, the result chunks, the shared table's read share and the kept remainder
  isplitl [Hx' Hi' Hrows FO0_dst FO1_dst Hsh0 Hsh1 Hkeep]
  · isplitl [Hx']; · iexact Hx'
    isplitl [Hi']; · iexact Hi'
    isplitl [Hrows FO0_dst FO1_dst]
    · iapply (rows_close (F := F) (U := U) d L fc0 fc1)
      isplitl [Hrows]; · iexact Hrows
      isplitl [FO0_dst]; · iexact FO0_dst
      iexact FO1_dst
    isplitl [Hsh0 Hsh1]
    · iapply (pointsTo_share (PosShare.mem_left_op_right (shTok (jV L)))).2
      isplitl [Hsh0]; · iexact Hsh0
      iexact Hsh1
    iexact Hkeep
  isplitl [Hat Hrch1]
  · isplitl [Hat]; · iexact Hat
    iexact Hrch1
  -- the scratches, whole again
  isplitl [Hix0 Hix1 FG0_dst FG1_dst Hrwr FO0_src FO1_src Hobr]
  · isplitl [Hix0 Hix1]
    · iexists _
      iapply (pointsTo_share (PosShare.mem_left_op_right fullShare)).2
      isplitl [Hix0]; · iexact Hix0
      iexact Hix1
    isplitl [FG0_dst FG1_dst Hrwr]
    · ihave H1 := (pts_join (F := F) (U := U) (sdiff_join_disj rw_slots_disjoint) fr0 frr) $$ [FG0_dst Hrwr]
      · isplitl [FG0_dst]; · iexact FG0_dst
        iexact Hrwr
      icases H1 with ⟨%g1, H1⟩
      rw [sdiff_join_left rw_slots_disjoint]
      ihave H2 := (pts_join (F := F) (U := U) Finset.disjoint_sdiff fr1 g1) $$ [FG1_dst H1]
      · isplitl [FG1_dst]; · iexact FG1_dst
        iexact H1
      icases H2 with ⟨%g2, H2⟩
      rw [sdiff_join_all]
      iexists g2; iexact H2
    · ihave H1 := (pts_join (F := F) (U := U) (sdiff_join_disj ob_slots_disjoint) fob0 fob) $$ [FO0_src Hobr]
      · isplitl [FO0_src]; · iexact FO0_src
        iexact Hobr
      icases H1 with ⟨%g1, H1⟩
      rw [sdiff_join_left ob_slots_disjoint]
      ihave H2 := (pts_join (F := F) (U := U) Finset.disjoint_sdiff fob1 g1) $$ [FO1_src H1]
      · isplitl [FO1_src]; · iexact FO1_src
        iexact H1
      icases H2 with ⟨%g2, H2⟩
      rw [sdiff_join_all]
      iexists g2; iexact H2
  -- the six semaphores at zero
  isplitl [HsA HsB FG0 FG1 FO0 FO1]
  · isplitl [HsA]; · iexact HsA
    isplitl [HsB]; · iexact HsB
    isplitl [FG0]; · iexact FG0
    isplitl [FG1]; · iexact FG1
    isplitl [FO0]; · iexact FO0
    iexact FO1
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

end Body
end Cert.Proof.TileB1
end
-- ==== Proof.BodyGenVC1K.lean ====
/-
  The gather-sum kernel on one vector subcore, stated over ANY schedule of the barrier cells.

  The subcore's run uses the barrier's schedule only through five facts at the call's round: every sibling's cell names
  the subcore as a duty of the round, each such duty is one unit, the subcore's own round expects sixteen units, the
  staged stripe splits into what is kept and what the sixteen duties hand over, and what the subcore's own round
  collects is its read share of the whole shared table.  With these as hypotheses, and the round and the call's number
  as parameters, one text serves every call and whatever schedule the launch fixed.  The forty trips' step is a
  hypothesis too.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC1K
import proofs.«205366_g3083786518796_cont_9to1_852_38_alg».proof.Proof.BodyLemmasC1K
import proofs.«205366_g3083786518796_cont_9to1_852_38_alg».proof.Proof.BodyInvC1K
import proofs.«205366_g3083786518796_cont_9to1_852_38_alg».proof.Proof.BodyJoinC1K
import proofs.«205366_g3083786518796_cont_9to1_852_38_alg».proof.Proof.BodyGenC1K
import proofs.«205366_g3083786518796_cont_9to1_852_38_alg».proof.Proof.BodyStepVC1K
import proofs.«205366_g3083786518796_cont_9to1_852_38_alg».proof.Proof.BodyStepsVC1K

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

section Body
variable (d : Dev nD) (L : grid3.Coords)

open Idealize.ShloMosaic.ValueIdx (ix1 ix2 ix3)

section GV
variable (Tx : S10000x128.Idx → Elt F .f32) (Ix : S32x10496.Idx → Elt F .i32)

/-- Handed back, with what the chunks hold: as `tdT`, every result chunk at its rows of the neighbour-sum array. -/
def tdTV (qx qi : PosShare TreeShare) : sProp 𝕄 :=
  iprop((xLoc d ↦{qx} Tx) ∗ (iLoc d ↦[iRowSet L]{qi} Ix)
    ∗ (bigSep Finset.univ fun tb : Fin k3_t1_loop.trips × Fin 2 =>
        iprop(∃ f, (oLoc d ↦[oChunkSet L tb.1 tb.2]{fullShare} f) ∗ ⌜∀ x ∈ oChunkSet L tb.1 tb.2, f x = Cert.Proof.KB.gsumF (F := F) Tx Ix x⌝))
    ∗ (shLoc d (cV L) ↦{shTok (jV L)} Tx) ∗ (shLoc d (cV L) ↦[stripe (jL L)]{shKeep} Tx))

theorem rows_of_chunksV (fo : S10240x128.Idx → Elt F .f32) :
    (bigSep Finset.univ fun tb : Fin k3_t1_loop.trips × Fin 2 => (oLoc d ↦[oChunkSet L tb.1 tb.2]{fullShare} fo : sProp 𝕄))
    ⊢ bigSep Finset.univ fun t' : Fin k3_t1_loop.trips => rowStV (U := U) d L Tx Ix 0 t' := by
  rw [bigSep_univ_prod]
  refine bigSep_mono fun t' _ => ?_
  rw [bigSep_univ_two, rowStV_todo (F := F) (U := U) d L Tx Ix (Nat.succ_ne_zero _) (Nat.not_lt_zero _)]
  exact row_intro (F := F) (U := U) d L t' fo

theorem row_elimV (t' : Fin k3_t1_loop.trips) :
    (iprop((∃ f, ⌜ChunkOK L Tx Ix t' 0 f⌝ ∗ ((oChunkK L t' 0).view.loc (V d (cV L) (jV L)) ↦[(oChunkK L t' 0).view.set]{fullShare} f))
      ∗ (∃ f, ⌜ChunkOK L Tx Ix t' 1 f⌝ ∗ ((oChunkK L t' 1).view.loc (V d (cV L) (jV L)) ↦[(oChunkK L t' 1).view.set]{fullShare} f))) : sProp 𝕄)
    ⊢ iprop((∃ f, (oLoc d ↦[oChunkSet L t' 0]{fullShare} f) ∗ ⌜∀ x ∈ oChunkSet L t' 0, f x = Cert.Proof.KB.gsumF (F := F) Tx Ix x⌝)
        ∗ (∃ f, (oLoc d ↦[oChunkSet L t' 1]{fullShare} f) ∗ ⌜∀ x ∈ oChunkSet L t' 1, f x = Cert.Proof.KB.gsumF (F := F) Tx Ix x⌝)) := by
  iintro ⟨⟨%f0, %h0, H0⟩, ⟨%f1, %h1, H1⟩⟩
  isplitl [H0]
  · iexists f0; isplitl [H0]
    · iapply (Entails.of_eq (pts_oChunk (F := F) (U := U) d L t' 0 f0)); iexact H0
    · ipureintro; exact h0
  · iexists f1; isplitl [H1]
    · iapply (Entails.of_eq (pts_oChunk (F := F) (U := U) d L t' 1 f1)); iexact H1
    · ipureintro; exact h1

/-- All result chunks held again, each at its rows of the neighbour-sum array. -/
theorem rows_closeV (fc0 fc1 : S10240x128.Idx → Elt F .f32) (h0 : ChunkOK L Tx Ix (tFin 39) 0 fc0) (h1 : ChunkOK L Tx Ix (tFin 39) 1 fc1) :
    iprop((bigSep Finset.univ fun t' : Fin k3_t1_loop.trips => rowStV (U := U) (F := F) d L Tx Ix 40 t')
      ∗ ((oChunkK L (tFin 39) 0).view.loc (V d (cV L) (jV L)) ↦[(oChunkK L (tFin 39) 0).view.set]{fullShare} fc0)
      ∗ ((oChunkK L (tFin 39) 1).view.loc (V d (cV L) (jV L)) ↦[(oChunkK L (tFin 39) 1).view.set]{fullShare} fc1))
    ⊢ bigSep Finset.univ fun tb : Fin k3_t1_loop.trips × Fin 2 =>
        (iprop(∃ f, (oLoc d ↦[oChunkSet L tb.1 tb.2]{fullShare} f) ∗ ⌜∀ x ∈ oChunkSet L tb.1 tb.2, f x = Cert.Proof.KB.gsumF (F := F) Tx Ix x⌝) : sProp 𝕄) := by
  rw [bigSep_univ_prod]
  have hrest : Idealize.SL.BI.Entails
      (bigSep (Finset.univ.erase (tFin 39)) fun t' : Fin k3_t1_loop.trips => rowStV (U := U) (F := F) d L Tx Ix 40 t')
      (bigSep (Finset.univ.erase (tFin 39)) fun t' : Fin k3_t1_loop.trips => bigSep Finset.univ fun b : Fin 2 =>
        (iprop(∃ f, (oLoc d ↦[oChunkSet L (t', b).1 (t', b).2]{fullShare} f) ∗ ⌜∀ x ∈ oChunkSet L (t', b).1 (t', b).2, f x = Cert.Proof.KB.gsumF (F := F) Tx Ix x⌝) : sProp 𝕄)) :=
    bigSep_mono fun t' ht' => by
      have hne : t'.val + 1 ≠ 40 := fun h => (Finset.mem_erase.mp ht').1 (Fin.ext (by show t'.val = min 39 39; omega))
      have hlt : t'.val < 40 := lt_of_lt_of_eq t'.isLt k3_trips_eq
      rw [bigSep_univ_two, rowStV_done (F := F) (U := U) d L Tx Ix hne hlt]
      exact row_elimV (F := F) (U := U) d L Tx Ix t'
  iintro ⟨Hrows, H0, H1⟩
  ihave Hr := (Entails.of_eq (SparseCore.bigSep_erase' (Φ := fun t' : Fin k3_t1_loop.trips => rowStV (U := U) (F := F) d L Tx Ix 40 t') (Finset.mem_univ (tFin 39)))) $$ Hrows
  icases Hr with ⟨-, Hrest⟩
  iapply (Entails.of_eq (SparseCore.bigSep_erase' (Φ := fun t' : Fin k3_t1_loop.trips => bigSep Finset.univ fun b : Fin 2 =>
    (iprop(∃ f, (oLoc d ↦[oChunkSet L (t', b).1 (t', b).2]{fullShare} f) ∗ ⌜∀ x ∈ oChunkSet L (t', b).1 (t', b).2, f x = Cert.Proof.KB.gsumF (F := F) Tx Ix x⌝) : sProp 𝕄)) (Finset.mem_univ (tFin 39))).symm)
  isplitl [H0 H1]
  · rw [bigSep_univ_two]
    isplitl [H0]
    · iexists fc0; isplitl [H0]
      · iapply (Entails.of_eq (pts_oChunk (F := F) (U := U) d L (tFin 39) 0 fc0)); iexact H0
      · ipureintro; exact h0
    · iexists fc1; isplitl [H1]
      · iapply (Entails.of_eq (pts_oChunk (F := F) (U := U) d L (tFin 39) 1 fc1)); iexact H1
      · ipureintro; exact h1
  · iapply (SparseCore.ent hrest) $$ Hrest

end GV

set_option maxHeartbeats 4000000 in
/-- The kernel on vector subcore `L`: the index row and the stripe copied in and waited for (the executor); the barrier
    (the stripe's read shares handed over, every stripe's received); the two first gathers; the forty trips (the invariant
    `tripInv`, each trip `trip_region`); the four last waits. -/
theorem tile_body_genV (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid3.bound 1), (jV L).val ∈ Rd.duties (bcell d (cV L) (j.castLE hsub3)) rC)
    (hamt : ∀ j : Fin (grid3.bound 1), Rd.amount (bcell d (cV L) (j.castLE hsub3)) rC (jV L).val = 1)
    (hexp : 0 + grid3.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid3.bound 1) => Rd.payload (bcell d (cV L) (j.castLE hsub3)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (htrip : ∀ (v2 : BitVec 32) (k : Fin k3_t1_loop.trips) (x : PUnit),
      tripInvV (F := F) (U := U) d L Tx Ix O
          (insert (SemLoc.reg sc_bar0, some qC) (insert (SemLoc.dma cc3_scoped1.sem, (default : HIx 3)) (insert (SemLoc.dma cc3_scoped0.sem, (default : HIx 3)) W))) k.val x
        ⊢ wp frame (wpE (defs₀ (F := F)) 𝒱₀ (V d (cV L) (jV L)) none) Set.univ
            (k3_t1_body L xV (Memref.isWhole_whole _) iV (Memref.isWhole_whole _) oV (Memref.isWhole_whole _)
              ixV (Memref.isWhole_whole _) rwV (Memref.isWhole_whole _) obV (Memref.isWhole_whole _) shV (Memref.isWhole_whole _)
              cc3_scratch4 cc3_scratch5 cc3_scoped0 cc3_scoped1 v2 k x)
            (tripInvV (F := F) (U := U) d L Tx Ix O
              (insert (SemLoc.reg sc_bar0, some qC) (insert (SemLoc.dma cc3_scoped1.sem, (default : HIx 3)) (insert (SemLoc.dma cc3_scoped0.sem, (default : HIx 3)) W))) (k.val + 1)))
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f))
        ∗ (semVal (cell d L cc3_scoped0.sem) 0 ∗ semVal (cell d L cc3_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc3__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1)
          fun _ => iprop(tdTV d L Tx Ix qx qi
            ∗ (atPos EB (bcell d (cV L) (jV L)) (rC + 1) (∅ : Finset ℕ) 0 ∗ reached (D := ℕ) EB (bcell d (cV L) (jV L)) (rC + 1))
            ∗ ((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f))
            ∗ (semVal (cell d L cc3_scoped0.sem) 0 ∗ semVal (cell d L cc3_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') := by
  simp only [cc3__sc_gather_sum_eq_skeleton]; unfold cc3__sc_gather_sum_skel
  unfold bkitR goT
  iintro ⟨#Hlv, ⟨⟨%κ, #Hinv⟩, Htoks, #Hrch, Hat, Hcred⟩, ⟨Hx, Hi, Ho, %fsh, Hsh⟩, ⟨⟨%f0, Hb0⟩, ⟨%f1, Hb1⟩, ⟨%f2, Hb2⟩⟩, ⟨HsA, HsB, Hg0, Hg1, Ho0, Ho1⟩, HO⟩
  have hO' : ∀ g, (O + oxV d (cV L) qC) g none = 0 := fun g => by rw [Pi.add_apply, Finsupp.add_apply, hO g, oxV_none]
  ihave Hmw1 := (show levAts (K (F := F)).L (K (F := F)).lev ⊢ Transfers.MayWaits (V d (cV L) (jV L)) (default : HIx 3) (O + oxV d (cV L) qC) from
    (K (F := F)).mayWaits_none (thr := V d (cV L) (jV L)) hO') $$ Hlv
  ihave Hmw2 := (show levAts (K (F := F)).L (K (F := F)).lev ⊢ Transfers.MayWaits (V d (cV L) (jV L)) (default : HIx 3) O from
    (K (F := F)).mayWaits_none (thr := V d (cV L) (jV L)) hO) $$ Hlv
  ihave Hx' := (Entails.of_eq (pts_x (F := F) (U := U) d L _ _).symm) $$ Hx
  ihave Hi' := (Entails.of_eq (pts_iRow (F := F) (U := U) d L _ _).symm) $$ Hi
  ihave Hsh' := (Entails.of_eq (pts_shStripe (F := F) (U := U) d L _ _).symm) $$ Hsh
  ihave Hix' := (Entails.of_eq (pts_ix (F := F) (U := U) d L _).symm) $$ Hb0
  ihave Hrw' := (Entails.of_eq (pts_rw (F := F) (U := U) d L _).symm) $$ Hb1
  ihave Hob' := (Entails.of_eq (pts_ob (F := F) (U := U) d L _).symm) $$ Hb2
  -- the index row into the index scratch, the stripe into the shared table, each waited for
  sl_exec (disch := first | exact View.amount_pos _ _ (stripe_numel_pos L) | exact View.dmaCredit_pos _ (stripe_numel_pos L))
  -- the barrier: the stripe, holding the table's rows, handed over by read shares; every stripe's share received
  unfold tile_body_genV.sl.dma0_1 tile_body_genV.sl.dma0
  ihave Hsh3 := (stripe_fix (F := F) (U := U) d L Tx fsh) $$ Hsh'
  ihave Hpk := hin_pay $$ Hsh3
  icases Hpk with ⟨Hkeep, Hpays⟩
  iapply (SparseCore.wp_subcoreBarrier 𝒱₀ none EB Rd d (sc := cV L) (i := jV L) sc_bar0 (grid3.bound 1) hsub3 (L 1) rfl κ (fun _ => rC) (jV L).val
      hmem hamt hexp (some qC) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) (8 * qC.val + 3) (fun p hp => by
        rw [Finset.mem_singleton] at hp; subst hp
        show (K (F := F)).lev (bcell d (cV L) (jV L)) (some qC) ≤ 8 * qC.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hrch1, Hgot⟩
  ihave Hall := hout_pay $$ Hgot
  -- the index scratch holds row `wid`; every window of it names rows of the table
  ihave Hix2 := (idx_fix (F := F) (U := U) d L Ix f0) $$ Hix'
  have hinR := idx_inb (F := F) L Ix hin
  ihave Hall' := (Entails.of_eq (show ((shV).view.loc (V d (cV L) (jV L)) ↦{shTok (jV L)} Tx : sProp 𝕄) = shLoc d (cV L) ↦{shTok (jV L)} Tx from rfl).symm) $$ Hall
  ihave HallS := (pointsTo_share (PosShare.mem_left_op_right (shTok (jV L)))).1 $$ Hall'
  icases HallS with ⟨HallA, HallB⟩
  ihave HixS := (pointsTo_share (PosShare.mem_left_op_right fullShare)).1 $$ Hix2
  icases HixS with ⟨HixA, HixB⟩
  -- the two first gathers
  sl_exec
  -- the forty trips
  sl_for (tripInvV d L Tx Ix O (insert (SemLoc.reg sc_bar0, some qC) (insert (SemLoc.dma cc3_scoped1.sem, (default : HIx 3)) (insert (SemLoc.dma cc3_scoped0.sem, (default : HIx 3)) W)))) $$ [Hmw2 Hg0 Hg1 HixA HixB HallA HallB Hrw' Hob' Ho0 Ho1 Ho HO]
  case region =>
    intro k x
    unfold tile_body_genV.sl.prog.body_1
    exact htrip _ k x
  · unfold tripInvV
    simp only [↓reduceIte]
    unfold gFl0 gFl1
    isplitr; · iexact Hmw2
    isplitl [Hg0 Hg1 HixA HixB]
    · iexists _; iexists _
      isplitr
      swap
      · isplitl [Hg0 HixA]
        · isplitl [Hg0]; · iexact Hg0
          iexact HixA
        · isplitl [Hg1]; · iexact Hg1
          iexact HixB
      ipureintro
      exact ⟨rows_ok0 (F := F) L Tx Ix 0 (by omega) _ rfl _ _ _ _, rows_ok1 (F := F) L Tx Ix 1 (by omega) _ rfl _ _ _ _⟩
    isplitl [Hrw']; · iexists _; iexact Hrw'
    isplitl [HallA]; · iexact HallA
    isplitl [HallB]; · iexact HallB
    isplitl [Hob' Ho0 Ho1]
    · iexists _
      isplitl [Hob']; · iexact Hob'
      isplitl [Ho0]; · iexact Ho0
      iexact Ho1
    isplitl [Ho]; · iapply (rows_of_chunksV (F := F) (U := U) d L Tx Ix fo); iexact Ho
    iexists _; isplitr
    · ipureintro; exact fun p hp => .inl hp
    · iexact HO
  iintro %_ HI
  have htr : Scf.trips k3_t1_loop.lb k3_t1_loop.ub k3_t1_loop.st = 40 := by decide
  rw [htr]
  unfold tripInvV
  simp only [show (40 : ℕ) ≠ 0 by decide, ↓reduceIte, show (40 : ℕ) - 1 = 39 by decide]
  unfold gFl0 gFl1 oFl0 oFl1
  icases HI with ⟨-, ⟨%fr0, %fr1, -, ⟨FG0, Hix0⟩, ⟨FG1, Hix1⟩⟩, ⟨%frr, Hrwr⟩, Hsh0, Hsh1, ⟨%fob, %fc0, %fc1, %fob0, %fob1, %hchk, FO0, FO1, Hobr⟩, Hrows, ⟨%W', %hW', HO⟩⟩
  sl_exec
  sl_step
  unfold tdTV
  -- the table's and the index row's shares, the result chunks, the shared table's read share and the kept remainder
  isplitl [Hx' Hi' Hrows FO0_dst FO1_dst Hsh0 Hsh1 Hkeep]
  · isplitl [Hx']; · iexact Hx'
    isplitl [Hi']; · iexact Hi'
    isplitl [Hrows FO0_dst FO1_dst]
    · iapply (rows_closeV (F := F) (U := U) d L Tx Ix fc0 fc1 hchk.1 hchk.2)
      isplitl [Hrows]; · iexact Hrows
      isplitl [FO0_dst]; · iexact FO0_dst
      iexact FO1_dst
    isplitl [Hsh0 Hsh1]
    · iapply (pointsTo_share (PosShare.mem_left_op_right (shTok (jV L)))).2
      isplitl [Hsh0]; · iexact Hsh0
      iexact Hsh1
    iexact Hkeep
  isplitl [Hat Hrch1]
  · isplitl [Hat]; · iexact Hat
    iexact Hrch1
  -- the scratches, whole again
  isplitl [Hix0 Hix1 FG0_dst FG1_dst Hrwr FO0_src FO1_src Hobr]
  · isplitl [Hix0 Hix1]
    · iexists _
      iapply (pointsTo_share (PosShare.mem_left_op_right fullShare)).2
      isplitl [Hix0]; · iexact Hix0
      iexact Hix1
    isplitl [FG0_dst FG1_dst Hrwr]
    · ihave H1 := (pts_join (F := F) (U := U) (sdiff_join_disj rw_slots_disjoint) fr0 frr) $$ [FG0_dst Hrwr]
      · isplitl [FG0_dst]; · iexact FG0_dst
        iexact Hrwr
      icases H1 with ⟨%g1, H1⟩
      rw [sdiff_join_left rw_slots_disjoint]
      ihave H2 := (pts_join (F := F) (U := U) Finset.disjoint_sdiff fr1 g1) $$ [FG1_dst H1]
      · isplitl [FG1_dst]; · iexact FG1_dst
        iexact H1
      icases H2 with ⟨%g2, H2⟩
      rw [sdiff_join_all]
      iexists g2; iexact H2
    · ihave H1 := (pts_join (F := F) (U := U) (sdiff_join_disj ob_slots_disjoint) fob0 fob) $$ [FO0_src Hobr]
      · isplitl [FO0_src]; · iexact FO0_src
        iexact Hobr
      icases H1 with ⟨%g1, H1⟩
      rw [sdiff_join_left ob_slots_disjoint]
      ihave H2 := (pts_join (F := F) (U := U) Finset.disjoint_sdiff fob1 g1) $$ [FO1_src H1]
      · isplitl [FO1_src]; · iexact FO1_src
        iexact H1
      icases H2 with ⟨%g2, H2⟩
      rw [sdiff_join_all]
      iexists g2; iexact H2
  -- the six semaphores at zero
  isplitl [HsA HsB FG0 FG1 FO0 FO1]
  · isplitl [HsA]; · iexact HsA
    isplitl [HsB]; · iexact HsB
    isplitl [FG0]; · iexact FG0
    isplitl [FG1]; · iexact FG1
    isplitl [FO0]; · iexact FO0
    iexact FO1
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

end Body
end Cert.Proof.TileB1
end
-- ==== Proof.BodyFrameVC1K.lean ====
/-
  The gather-sum kernel on one vector subcore, with what it computes: run from what the subcore is handed to what it hands
  back, every result chunk holding its rows of the neighbour-sum array; every trip of the forty proved.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC1K
import proofs.«205366_g3083786518796_cont_9to1_852_38_alg».proof.Proof.BodyLemmasC1K
import proofs.«205366_g3083786518796_cont_9to1_852_38_alg».proof.Proof.BodyInvC1K
import proofs.«205366_g3083786518796_cont_9to1_852_38_alg».proof.Proof.BodyJoinC1K
import proofs.«205366_g3083786518796_cont_9to1_852_38_alg».proof.Proof.GSumK
import proofs.«205366_g3083786518796_cont_9to1_852_38_alg».proof.Proof.BodyInvVC1K
import proofs.«205366_g3083786518796_cont_9to1_852_38_alg».proof.Proof.BodyTripC1K
import proofs.«205366_g3083786518796_cont_9to1_852_38_alg».proof.Proof.BodyStepVC1K
import proofs.«205366_g3083786518796_cont_9to1_852_38_alg».proof.Proof.BodyInnerVC1K
import proofs.«205366_g3083786518796_cont_9to1_852_38_alg».proof.Proof.BodyStepsVC1K
import proofs.«205366_g3083786518796_cont_9to1_852_38_alg».proof.Proof.BodyTripVC1K
import proofs.«205366_g3083786518796_cont_9to1_852_38_alg».proof.Proof.BodyGenVC1K
import Idealize.ShloMosaic.Lib.ValueIdx

noncomputable section

namespace Cert.Proof.TileB1

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v11_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v12_scv : Memref Cert.Kernel.sig Kind.scVector Space.hbm Cert.Kernel.S10240x128 EltTy.f32)
local notation "ixV" => (Memref.whole Cert.Kernel.cc3_scratch0 : Memref Cert.Kernel.sig Kind.scVector Space.vmem Cert.Kernel.S10496 EltTy.i32)
local notation "rwV" => (Memref.whole Cert.Kernel.cc3_scratch1 : Memref Cert.Kernel.sig Kind.scVector Space.vmem Cert.Kernel.S2x128x128 EltTy.f32)
local notation "obV" => (Memref.whole Cert.Kernel.cc3_scratch2 : Memref Cert.Kernel.sig Kind.scVector Space.vmem Cert.Kernel.S2x4x128 EltTy.f32)
local notation "shV" => (Memref.whole Cert.Kernel.cc3_scratch3 : Memref Cert.Kernel.sig Kind.scVector Space.shared Cert.Kernel.S10000x128 EltTy.f32)

section Body
variable (d : Dev nD) (L : grid3.Coords)

open Idealize.ShloMosaic.ValueIdx (ix1 ix2 ix3)

/-- The kernel on vector subcore `L`, every trip proved, the result chunks at their sums. -/
theorem tile_body_frameV (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid3.bound 1), (jV L).val ∈ Rd.duties (bcell d (cV L) (j.castLE hsub3)) rC)
    (hamt : ∀ j : Fin (grid3.bound 1), Rd.amount (bcell d (cV L) (j.castLE hsub3)) rC (jV L).val = 1)
    (hexp : 0 + grid3.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid3.bound 1) => Rd.payload (bcell d (cV L) (j.castLE hsub3)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f))
        ∗ (semVal (cell d L cc3_scoped0.sem) 0 ∗ semVal (cell d L cc3_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc3__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc3_scratch4 cc3_scratch5 cc3_scoped0 cc3_scoped1)
          fun _ => iprop(tdTV d L Tx Ix qx qi
            ∗ (atPos EB (bcell d (cV L) (jV L)) (rC + 1) (∅ : Finset ℕ) 0 ∗ reached (D := ℕ) EB (bcell d (cV L) (jV L)) (rC + 1))
            ∗ ((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f))
            ∗ (semVal (cell d L cc3_scoped0.sem) 0 ∗ semVal (cell d L cc3_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') :=
  tile_body_genV (F := F) (U := U) d L EB Rd rC qC qx qi Tx Ix fo hmem hamt hexp hin_pay hout_pay hin O W hO
    (fun v2 k x => trip_regionV (F := F) (U := U) d L Tx Ix (idx_inb (F := F) L Ix hin) O _ v2 k x) hOlev
end Body
end Cert.Proof.TileB1
end
-- ==== Proof.BodyInvC2K.lean ====
/-
  The invariant of the gather-sum kernel's forty trips, for one vector subcore: which gathers and copy-outs are in flight
  when `t` trips are done, and what of the scratches, of the shared table's read shares and of the result chunks is held.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC2K
import proofs.«205366_g3083786518796_cont_9to1_852_38_alg».proof.Proof.BodyLemmasC2K

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

section Body
variable (d : Dev nD) (L : grid5.Coords)

/-! ## The forty trips' invariant -/

theorem k5_trips_eq : k5_t1_loop.trips = 40 := by decide

/-- Trip `n` as an index of the loop (clamped). -/
def tFin (n : ℕ) : Fin k5_t1_loop.trips := ⟨min n 39, by rw [k5_trips_eq]; omega⟩
theorem tFin_val (k : Fin k5_t1_loop.trips) : tFin k.val = k := Fin.ext (by have h := lt_of_lt_of_eq k.isLt k5_trips_eq; show min k.val 39 = k.val; omega)

/-- The index windows of the two gathers started before the loop, and of those a trip starts. -/
abbrev ixLit0 : Memref sig .scVector .vmem S128 .i32 := (ixV).slice (Rect.unit (s := S10496) ![0] S128.size inb_S10496_S128_0) (fun _ => rfl)
abbrev ixLit1 : Memref sig .scVector .vmem S128 .i32 := (ixV).slice (Rect.unit (s := S10496) ![128] S128.size inb_S10496_S128_128) (fun _ => rfl)
abbrev ixLoop0 (t : Fin k5_t1_loop.trips) : Memref sig .scVector .vmem S128 .i32 := (ixV).slice (Rect.unit (s := S10496) (k5_off21 t 0#32) S128.size (k5_off21_inb t 0)) (fun _ => rfl)
abbrev ixLoop1 (t : Fin k5_t1_loop.trips) : Memref sig .scVector .vmem S128 .i32 := (ixV).slice (Rect.unit (s := S10496) (k5_off21 t 1#32) S128.size (k5_off21_inb t 1)) (fun _ => rfl)

abbrev ixLoopSet0 (t : Fin k5_t1_loop.trips) : Finset S10496.Idx := (ixLoop0 t).view.set
abbrev ixLoopSet1 (t : Fin k5_t1_loop.trips) : Finset S10496.Idx := (ixLoop1 t).view.set
abbrev ixLitSet0 : Finset S10496.Idx := (ixLit0).view.set
abbrev ixLitSet1 : Finset S10496.Idx := (ixLit1).view.set

section Inv

variable (Tx : S10000x128.Idx → Elt F .f32) (Ix : S32x10496.Idx → Elt F .i32)

/-- A gather in flight into slot 0 (resp. 1) of the row scratch, over the index window `w`, and the rest of that window's
    share of the index scratch. -/
def gFl0 (ws : Finset S10496.Idx) (fr : Buf (Elt F) ((V d (cV L) (jV L)).loc cc5_scratch1)) : sProp 𝕄 :=
  iprop(Transfers.Flight (countersEmb : UEmb Counters 𝕄) (V d (cV L) (jV L)) (SemLoc.dma g0sem) (default : HIx 3) 524288
      iprop((((rwV).view.loc (V d (cV L) (jV L)) ↦[(rwK0).view.set]{fullShare} fr)
          ∗ ((ixV).view.loc (V d (cV L) (jV L)) ↦[ws]{fullShare.left} (iRowK L).view.read (Elt F) Ix))
        ∗ ((shV).view.loc (V d (cV L) (jV L)) ↦[(shAllK).view.set]{(shTok (jV L)).left} Tx))
    ∗ ((ixV).view.loc (V d (cV L) (jV L)) ↦[Finset.univ \ ws]{fullShare.left} (iRowK L).view.read (Elt F) Ix))
def gFl1 (ws : Finset S10496.Idx) (fr : Buf (Elt F) ((V d (cV L) (jV L)).loc cc5_scratch1)) : sProp 𝕄 :=
  iprop(Transfers.Flight (countersEmb : UEmb Counters 𝕄) (V d (cV L) (jV L)) (SemLoc.dma g1sem) (default : HIx 3) 524288
      iprop((((rwV).view.loc (V d (cV L) (jV L)) ↦[(rwK1).view.set]{fullShare} fr)
          ∗ ((ixV).view.loc (V d (cV L) (jV L)) ↦[ws]{fullShare.right} (iRowK L).view.read (Elt F) Ix))
        ∗ ((shV).view.loc (V d (cV L) (jV L)) ↦[(shAllK).view.set]{(shTok (jV L)).right} Tx))
    ∗ ((ixV).view.loc (V d (cV L) (jV L)) ↦[Finset.univ \ ws]{fullShare.right} (iRowK L).view.read (Elt F) Ix))

/-- A copy-out in flight from slot 0 (resp. 1) of the result scratch to the chunk of trip `t`. -/
def oFl0 (t : Fin k5_t1_loop.trips) (fc : S10240x128.Idx → Elt F .f32) (fob : Buf (Elt F) ((V d (cV L) (jV L)).loc cc5_scratch2)) : sProp 𝕄 :=
  Transfers.Flight (countersEmb : UEmb Counters 𝕄) (V d (cV L) (jV L)) (SemLoc.dma o0sem) (default : HIx 3) 16384
    iprop(((oChunkK L t 0).view.loc (V d (cV L) (jV L)) ↦[(oChunkK L t 0).view.set]{fullShare} fc)
      ∗ ((obV).view.loc (V d (cV L) (jV L)) ↦[(obK0).view.set]{fullShare} fob))
def oFl1 (t : Fin k5_t1_loop.trips) (fc : S10240x128.Idx → Elt F .f32) (fob : Buf (Elt F) ((V d (cV L) (jV L)).loc cc5_scratch2)) : sProp 𝕄 :=
  Transfers.Flight (countersEmb : UEmb Counters 𝕄) (V d (cV L) (jV L)) (SemLoc.dma o1sem) (default : HIx 3) 16384
    iprop(((oChunkK L t 1).view.loc (V d (cV L) (jV L)) ↦[(oChunkK L t 1).view.set]{fullShare} fc)
      ∗ ((obV).view.loc (V d (cV L) (jV L)) ↦[(obK1).view.set]{fullShare} fob))

/-- The two result chunks of trip `t'` when `t` trips are done: in flight (trip `t - 1`'s), else held at some contents. -/
def rowSt (t : ℕ) (t' : Fin k5_t1_loop.trips) : sProp 𝕄 :=
  if t'.val + 1 = t then iprop(emp)
  else iprop((∃ f, (oChunkK L t' 0).view.loc (V d (cV L) (jV L)) ↦[(oChunkK L t' 0).view.set]{fullShare} f)
    ∗ (∃ f, (oChunkK L t' 1).view.loc (V d (cV L) (jV L)) ↦[(oChunkK L t' 1).view.set]{fullShare} f))

/-- When `t` trips are done: the gathers of chunks `2 t` and `2 t + 1` are in flight; the copy-outs of trip `t - 1` are
    (none before the first trip); the scratches less the slots in flight are held; the shared table's two read shares less
    nothing; every other result chunk is held. -/
def tripInv (O : CellTallies nD τ sig (HIx 3)) (W : Waits sig (HIx 3)) (t : ℕ) (_ : PUnit) : sProp 𝕄 :=
  iprop(Transfers.MayWaits (V d (cV L) (jV L)) (default : HIx 3) O
    ∗ (if t = 0 then iprop(∃ fr0 fr1 : Buf (Elt F) ((V d (cV L) (jV L)).loc cc5_scratch1), gFl0 d L Tx Ix ixLitSet0 fr0 ∗ gFl1 d L Tx Ix ixLitSet1 fr1)
        else iprop(∃ fr0 fr1 : Buf (Elt F) ((V d (cV L) (jV L)).loc cc5_scratch1),
          gFl0 d L Tx Ix (ixLoopSet0 (tFin (t - 1))) fr0 ∗ gFl1 d L Tx Ix (ixLoopSet1 (tFin (t - 1))) fr1))
    ∗ (∃ frr : Buf (Elt F) ((V d (cV L) (jV L)).loc cc5_scratch1),
        (rwV).view.loc (V d (cV L) (jV L)) ↦[(Finset.univ \ (rwK0).view.set) \ (rwK1).view.set]{fullShare} frr)
    ∗ ((shV).view.loc (V d (cV L) (jV L)) ↦[Finset.univ \ (shAllK).view.set]{(shTok (jV L)).left} Tx)
    ∗ ((shV).view.loc (V d (cV L) (jV L)) ↦[Finset.univ \ (shAllK).view.set]{(shTok (jV L)).right} Tx)
    ∗ (if t = 0 then iprop(∃ fob : Buf (Elt F) ((V d (cV L) (jV L)).loc cc5_scratch2), ((obV).view.loc (V d (cV L) (jV L)) ↦{fullShare} fob)
            ∗ semVal (V d (cV L) (jV L), SemLoc.dma o0sem) 0 ∗ semVal (V d (cV L) (jV L), SemLoc.dma o1sem) 0)
        else iprop(∃ (fob : Buf (Elt F) ((V d (cV L) (jV L)).loc cc5_scratch2)) (fc0 fc1 : S10240x128.Idx → Elt F .f32) (fob0 fob1 : Buf (Elt F) ((V d (cV L) (jV L)).loc cc5_scratch2)),
            oFl0 d L (tFin (t - 1)) fc0 fob0 ∗ oFl1 d L (tFin (t - 1)) fc1 fob1
            ∗ ((obV).view.loc (V d (cV L) (jV L)) ↦[(Finset.univ \ (obK0).view.set) \ (obK1).view.set]{fullShare} fob)))
    ∗ (bigSep Finset.univ fun t' : Fin k5_t1_loop.trips => rowSt d L t t')
    ∗ ∃ W', ⌜∀ p ∈ W', p ∈ W ∨ p.2 = none⌝ ∗ owes (V d (cV L) (jV L)) O W')

end Inv

end Body
end Cert.Proof.TileB2
end
-- ==== Proof.BodyJoinC2K.lean ====
/-
  Joining pieces of one buffer held at contents of their own; the slots of the row and result scratches are apart; the
  result chunks' rows as the trips' invariant states them, opened and closed; what the stage copy and the index copy leave.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC2K
import proofs.«205366_g3083786518796_cont_9to1_852_38_alg».proof.Proof.BodyLemmasC2K
import proofs.«205366_g3083786518796_cont_9to1_852_38_alg».proof.Proof.BodyInvC2K

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

section Body
variable (d : Dev nD) (L : grid5.Coords)

/-! ## Two pieces of one buffer, at contents of their own, are their union at some contents -/

theorem pts_join {ℓ : Loc nD τ sig} {q : PosShare TreeShare} {A B : Finset (Idx ℓ)} (h : Disjoint A B) (f g : Buf (Elt F) ℓ) :
    iprop((ℓ ↦[A]{q} f) ∗ (ℓ ↦[B]{q} g)) ⊢ (iprop(∃ h, ℓ ↦[A ∪ B]{q} h) : sProp 𝕄) := by
  classical
  have e1 : (ℓ ↦[A]{q} f : sProp 𝕄) = ℓ ↦[A]{q} (fun i => if i ∈ A then f i else g i) := pointsTo_congr fun i hi => by simp [hi]
  have e2 : (ℓ ↦[B]{q} g : sProp 𝕄) = ℓ ↦[B]{q} (fun i => if i ∈ A then f i else g i) := pointsTo_congr fun i hi => by
    have : i ∉ A := fun ha => (Finset.disjoint_left.mp h ha hi)
    simp [this]
  iintro ⟨HA, HB⟩
  iexists (fun i => if i ∈ A then f i else g i)
  ihave HA' := (Entails.of_eq e1) $$ HA
  ihave HB' := (Entails.of_eq e2) $$ HB
  iapply (pointsTo_split_subset (S := A ∪ B) (I := A) Finset.subset_union_left).2
  isplitl [HA']; · iexact HA'
  rw [Finset.union_sdiff_cancel_left h]; iexact HB'

/-- The two slots of the row scratch, and of the result scratch, are apart. -/
theorem set_rwK0 : (rwK0).view.set = (Rect.unit (s := S2x128x128) ![0, 0, 0] S1x128x128.size inb_S2x128x128_S1x128x128_0_0_0).set := by
  show (((rwV).view.slice (Rect.unit (s := S2x128x128) ![0, 0, 0] S1x128x128.size inb_S2x128x128_S1x128x128_0_0_0)).reshape S128x128 squeezes_S1x128x128_S128x128.numel_eq).set = _
  rw [View.set_reshape, View.set_slice_whole]
theorem set_rwK1 : (rwK1).view.set = (Rect.unit (s := S2x128x128) ![1, 0, 0] S1x128x128.size inb_S2x128x128_S1x128x128_1_0_0).set := by
  show (((rwV).view.slice (Rect.unit (s := S2x128x128) ![1, 0, 0] S1x128x128.size inb_S2x128x128_S1x128x128_1_0_0)).reshape S128x128 squeezes_S1x128x128_S128x128.numel_eq).set = _
  rw [View.set_reshape, View.set_slice_whole]
theorem set_obK0 : (obK0).view.set = (Rect.unit (s := S2x4x128) ![0, 0, 0] S1x4x128.size inb_S2x4x128_S1x4x128_0_0_0).set := by
  show (((obV).view.slice (Rect.unit (s := S2x4x128) ![0, 0, 0] S1x4x128.size inb_S2x4x128_S1x4x128_0_0_0)).reshape S4x128 squeezes_S1x4x128_S4x128.numel_eq).set = _
  rw [View.set_reshape, View.set_slice_whole]
theorem set_obK1 : (obK1).view.set = (Rect.unit (s := S2x4x128) ![1, 0, 0] S1x4x128.size inb_S2x4x128_S1x4x128_1_0_0).set := by
  show (((obV).view.slice (Rect.unit (s := S2x4x128) ![1, 0, 0] S1x4x128.size inb_S2x4x128_S1x4x128_1_0_0)).reshape S4x128 squeezes_S1x4x128_S4x128.numel_eq).set = _
  rw [View.set_reshape, View.set_slice_whole]
theorem rw_slots_disjoint : Disjoint (rwK0).view.set (rwK1).view.set := by
  rw [set_rwK0, set_rwK1]; exact Rect.unit_disjoint 0 (Or.inl (by decide))
theorem ob_slots_disjoint : Disjoint (obK0).view.set (obK1).view.set := by
  rw [set_obK0, set_obK1]; exact Rect.unit_disjoint 0 (Or.inl (by decide))

theorem sdiff_join_left {α : Type} [DecidableEq α] [Fintype α] {A B : Finset α} (h : Disjoint A B) :
    A ∪ ((Finset.univ \ A) \ B) = Finset.univ \ B := by
  ext i
  have hd : i ∈ A → i ∉ B := fun ha => Finset.disjoint_left.mp h ha
  simp only [Finset.mem_union, Finset.mem_sdiff, Finset.mem_univ, true_and]
  tauto
theorem sdiff_join_right {α : Type} [DecidableEq α] [Fintype α] {A B : Finset α} (h : Disjoint A B) :
    B ∪ ((Finset.univ \ B) \ A) = Finset.univ \ A := sdiff_join_left h.symm
theorem sdiff_join_all {α : Type} [DecidableEq α] [Fintype α] {A : Finset α} : A ∪ (Finset.univ \ A) = Finset.univ := by
  ext i; simp only [Finset.mem_union, Finset.mem_sdiff, Finset.mem_univ, true_and]; tauto

theorem sdiff_join_disj {α : Type} [DecidableEq α] [Fintype α] {A B : Finset α} (h : Disjoint A B) : Disjoint A ((Finset.univ \ A) \ B) :=
  Finset.disjoint_left.mpr fun i hi hm => (Finset.mem_sdiff.mp (Finset.mem_sdiff.mp hm).1).2 hi

theorem row_intro (t' : Fin k5_t1_loop.trips) (fo : S10240x128.Idx → Elt F .f32) :
    iprop((oLoc d ↦[oChunkSet L t' 0]{fullShare} fo) ∗ (oLoc d ↦[oChunkSet L t' 1]{fullShare} fo))
    ⊢ (iprop((∃ f, (oChunkK L t' 0).view.loc (V d (cV L) (jV L)) ↦[(oChunkK L t' 0).view.set]{fullShare} f)
      ∗ (∃ f, (oChunkK L t' 1).view.loc (V d (cV L) (jV L)) ↦[(oChunkK L t' 1).view.set]{fullShare} f)) : sProp 𝕄) := by
  iintro ⟨H0, H1⟩
  isplitl [H0]
  · iexists fo; iapply (Entails.of_eq (pts_oChunk (F := F) (U := U) d L t' 0 fo).symm); iexact H0
  · iexists fo; iapply (Entails.of_eq (pts_oChunk (F := F) (U := U) d L t' 1 fo).symm); iexact H1

theorem row_elim (t' : Fin k5_t1_loop.trips) :
    (iprop((∃ f, (oChunkK L t' 0).view.loc (V d (cV L) (jV L)) ↦[(oChunkK L t' 0).view.set]{fullShare} f)
      ∗ (∃ f, (oChunkK L t' 1).view.loc (V d (cV L) (jV L)) ↦[(oChunkK L t' 1).view.set]{fullShare} f)) : sProp 𝕄)
    ⊢ iprop((∃ f, oLoc d ↦[oChunkSet L t' 0]{fullShare} f) ∗ (∃ f, oLoc d ↦[oChunkSet L t' 1]{fullShare} f)) := by
  iintro ⟨⟨%f0, H0⟩, ⟨%f1, H1⟩⟩
  isplitl [H0]
  · iexists f0; iapply (Entails.of_eq (pts_oChunk (F := F) (U := U) d L t' 0 f0)); iexact H0
  · iexists f1; iapply (Entails.of_eq (pts_oChunk (F := F) (U := U) d L t' 1 f1)); iexact H1

/-- The result chunks, all held, as the invariant before the first trip states them. -/
theorem rows_of_chunks (fo : S10240x128.Idx → Elt F .f32) :
    (bigSep Finset.univ fun tb : Fin k5_t1_loop.trips × Fin 2 => (oLoc d ↦[oChunkSet L tb.1 tb.2]{fullShare} fo : sProp 𝕄))
    ⊢ bigSep Finset.univ fun t' : Fin k5_t1_loop.trips => rowSt (U := U) d L 0 t' := by
  rw [bigSep_univ_prod]
  refine bigSep_mono fun t' _ => ?_
  rw [bigSep_univ_two]
  unfold rowSt
  rw [if_neg (Nat.succ_ne_zero _)]
  exact row_intro (F := F) (U := U) d L t' fo

/-- Every result chunk held again, at some contents. -/
theorem chunks_of_rows (t : ℕ) (ht : ∀ t' : Fin k5_t1_loop.trips, t'.val + 1 ≠ t) :
    (bigSep Finset.univ fun t' : Fin k5_t1_loop.trips => rowSt (U := U) (F := F) d L t t')
    ⊢ bigSep Finset.univ fun tb : Fin k5_t1_loop.trips × Fin 2 => (iprop(∃ f, oLoc d ↦[oChunkSet L tb.1 tb.2]{fullShare} f) : sProp 𝕄) := by
  rw [bigSep_univ_prod]
  refine bigSep_mono fun t' _ => ?_
  rw [bigSep_univ_two]
  unfold rowSt
  rw [if_neg (ht t')]
  exact row_elim (F := F) (U := U) d L t'

/-- After the stage copy the stripe of the shared table holds the table's rows. -/
theorem stripe_fix (Tx fsh : S10000x128.Idx → Elt F .f32) :
    ((shStripeK L).view.loc (V d (cV L) (jV L)) ↦[(shStripeK L).view.set]{fullShare}
        (shStripeK L).view.writes (Elt F) fsh [⟨Rect.whole { rank := 2, size := (k5_off2 L).2 }, ReadAs.same.apply ((xStripeK L).view.read (Elt F) Tx)⟩] : sProp 𝕄)
    ⊢ shLoc d (cV L) ↦[stripe (jL L)]{fullShare} Tx := by
  rw [pointsTo_congr (stripe_copied (F := F) L Tx fsh)]
  exact Entails.of_eq (pts_shStripe (F := F) (U := U) d L _ _)

/-- After the index copy the index scratch holds row `wid`. -/
theorem idx_fix (Ix : S32x10496.Idx → Elt F .i32) (f0 : S10496.Idx → Elt F .i32) :
    ((ixV).view.loc (V d (cV L) (jV L)) ↦{fullShare} View.write (Elt F) (ixV).view f0 (ReadAs.same.apply ((iRowK L).view.read (Elt F) Ix)) Finset.univ : sProp 𝕄)
    ⊢ (ixV).view.loc (V d (cV L) (jV L)) ↦{fullShare} (iRowK L).view.read (Elt F) Ix := by
  rw [pointsTo_congr (idx_copied (F := F) L Ix f0)]

theorem stripe_numel_pos : ∀ L : grid5.Coords, 0 < (⟨2, (k5_off2 L).2⟩ : Shape).numel := by decide +kernel

theorem tFin_39 : (tFin 39).val + 1 = 40 := rfl

/-- All result chunks held again once the last trip's two copy-outs have landed. -/
theorem rows_close (fc0 fc1 : S10240x128.Idx → Elt F .f32) :
    iprop((bigSep Finset.univ fun t' : Fin k5_t1_loop.trips => rowSt (U := U) (F := F) d L 40 t')
      ∗ ((oChunkK L (tFin 39) 0).view.loc (V d (cV L) (jV L)) ↦[(oChunkK L (tFin 39) 0).view.set]{fullShare} fc0)
      ∗ ((oChunkK L (tFin 39) 1).view.loc (V d (cV L) (jV L)) ↦[(oChunkK L (tFin 39) 1).view.set]{fullShare} fc1))
    ⊢ bigSep Finset.univ fun tb : Fin k5_t1_loop.trips × Fin 2 => (iprop(∃ f, oLoc d ↦[oChunkSet L tb.1 tb.2]{fullShare} f) : sProp 𝕄) := by
  rw [bigSep_univ_prod]
  have hrest : Idealize.SL.BI.Entails
      (bigSep (Finset.univ.erase (tFin 39)) fun t' : Fin k5_t1_loop.trips => rowSt (U := U) (F := F) d L 40 t')
      (bigSep (Finset.univ.erase (tFin 39)) fun t' : Fin k5_t1_loop.trips => bigSep Finset.univ fun b : Fin 2 => (iprop(∃ f, oLoc d ↦[oChunkSet L (t', b).1 (t', b).2]{fullShare} f) : sProp 𝕄)) :=
    bigSep_mono fun t' ht' => by
      have hne : t'.val + 1 ≠ 40 := fun h => (Finset.mem_erase.mp ht').1 (Fin.ext (by show t'.val = min 39 39; omega))
      rw [bigSep_univ_two]
      unfold rowSt
      rw [if_neg hne]
      exact row_elim (F := F) (U := U) d L t'
  iintro ⟨Hrows, H0, H1⟩
  ihave Hr := (Entails.of_eq (SparseCore.bigSep_erase' (Φ := fun t' : Fin k5_t1_loop.trips => rowSt (U := U) (F := F) d L 40 t') (Finset.mem_univ (tFin 39)))) $$ Hrows
  icases Hr with ⟨-, Hrest⟩
  iapply (Entails.of_eq (SparseCore.bigSep_erase' (Φ := fun t' : Fin k5_t1_loop.trips => bigSep Finset.univ fun b : Fin 2 => (iprop(∃ f, oLoc d ↦[oChunkSet L (t', b).1 (t', b).2]{fullShare} f) : sProp 𝕄)) (Finset.mem_univ (tFin 39))).symm)
  isplitl [H0 H1]
  · rw [bigSep_univ_two]
    isplitl [H0]
    · iexists fc0; iapply (Entails.of_eq (pts_oChunk (F := F) (U := U) d L (tFin 39) 0 fc0)); iexact H0
    · iexists fc1; iapply (Entails.of_eq (pts_oChunk (F := F) (U := U) d L (tFin 39) 1 fc1)); iexact H1
  · iapply (SparseCore.ent hrest) $$ Hrest

end Body
end Cert.Proof.TileB2
end
-- ==== Proof.BodyInvVC2K.lean ====
/-
  The gather-sum kernel's trips with what the buffers hold: the row scratch's slots hold the table rows their index chunks
  name, the result scratch's summed rows hold the tree sums, the chunks copied out hold their rows of the neighbour-sum array.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC2K
import proofs.«205366_g3083786518796_cont_9to1_852_38_alg».proof.Proof.BodyLemmasC2K
import proofs.«205366_g3083786518796_cont_9to1_852_38_alg».proof.Proof.BodyInvC2K
import proofs.«205366_g3083786518796_cont_9to1_852_38_alg».proof.Proof.BodyJoinC2K
import proofs.«205366_g3083786518796_cont_9to1_852_38_alg».proof.Proof.GSumK
import Idealize.ShloMosaic.Lib.ValueIdx

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

section Body
variable (d : Dev nD) (L : grid5.Coords)

/-! ## The forty trips' invariant, with what the buffers hold -/

open Idealize.ShloMosaic.ValueIdx (ix1 ix2 ix3)

section InvV

variable (Tx : S10000x128.Idx → Elt F .f32) (Ix : S32x10496.Idx → Elt F .i32)

/-- Entry `n` of the worker's row of the index table, as a row number of the table (reduced into range). -/
def idxAt (n : ℕ) : Fin 10000 :=
  ⟨((iRowK L).view.read (Elt F) Ix (ix1 ⟨n % 10496, Nat.mod_lt _ (by decide)⟩)).toNat % 10000, Nat.mod_lt _ (by decide)⟩

/-- Slot `b` of the row scratch holds the 128 table rows named by index chunk `n`. -/
def RowsOK (b : Fin 2) (n : ℕ) (fr : S2x128x128.Idx → Elt F .f32) : Prop :=
  ∀ (r j : Fin 128), fr (ix3 b r j) = Tx (ix2 (idxAt L Ix (128 * n + r.val)) j)

/-- The tree sum of the 32 table rows named by entries `32 m …` of the worker's index row, at lane `j`: row `m` of the
    worker's 320 result rows. -/
def rowSum [FloatOps F] (m : ℕ) (j : Fin 128) : Elt F .f32 :=
  Cert.Proof.KB.tree32 (F := F) fun kk : Fin 32 => Tx (ix2 (idxAt L Ix (32 * m + kk.val)) j)

/-- Rows `< r` of slot `b` of the result scratch hold the sums of result rows `4 n …`. -/
def SumsOK [FloatOps F] (b : Fin 2) (n : ℕ) (r : ℕ) (fob : S2x4x128.Idx → Elt F .f32) : Prop :=
  ∀ (r' : Fin 4) (j : Fin 128), r'.val < r → fob (ix3 b r' j) = rowSum L Tx Ix (4 * n + r'.val) j

/-- A result chunk holds its rows of the neighbour-sum array. -/
def ChunkOK [FloatOps F] (t : Fin k5_t1_loop.trips) (b : Fin 2) (f : S10240x128.Idx → Elt F .f32) : Prop :=
  ∀ x ∈ oChunkSet L t b, f x = Cert.Proof.KB.gsumF (F := F) Tx Ix x

/-- The two result chunks of trip `t'` when `t` trips are done: in flight (trip `t - 1`'s); copied out and holding their rows of
    the neighbour-sum array (earlier trips'); else held at some contents. -/
def rowStV [FloatOps F] (t : ℕ) (t' : Fin k5_t1_loop.trips) : sProp 𝕄 :=
  if t'.val + 1 = t then iprop(emp)
  else if t'.val < t then
    iprop((∃ f, ⌜ChunkOK L Tx Ix t' 0 f⌝ ∗ ((oChunkK L t' 0).view.loc (V d (cV L) (jV L)) ↦[(oChunkK L t' 0).view.set]{fullShare} f))
      ∗ (∃ f, ⌜ChunkOK L Tx Ix t' 1 f⌝ ∗ ((oChunkK L t' 1).view.loc (V d (cV L) (jV L)) ↦[(oChunkK L t' 1).view.set]{fullShare} f)))
  else iprop((∃ f, (oChunkK L t' 0).view.loc (V d (cV L) (jV L)) ↦[(oChunkK L t' 0).view.set]{fullShare} f)
    ∗ (∃ f, (oChunkK L t' 1).view.loc (V d (cV L) (jV L)) ↦[(oChunkK L t' 1).view.set]{fullShare} f))

/-- The trips' invariant with what the buffers hold: the row scratch's slot in flight will hold the table rows its index
    chunk names; a chunk in flight will hold its rows of the neighbour-sum array; the chunks copied out hold theirs. -/
def tripInvV [FloatOps F] (O : CellTallies nD τ sig (HIx 3)) (W : Waits sig (HIx 3)) (t : ℕ) (_ : PUnit) : sProp 𝕄 :=
  iprop(Transfers.MayWaits (V d (cV L) (jV L)) (default : HIx 3) O
    ∗ (if t = 0 then iprop(∃ fr0 fr1 : Buf (Elt F) ((V d (cV L) (jV L)).loc cc5_scratch1),
          ⌜RowsOK L Tx Ix 0 (2 * t) fr0 ∧ RowsOK L Tx Ix 1 (2 * t + 1) fr1⌝ ∗ gFl0 d L Tx Ix ixLitSet0 fr0 ∗ gFl1 d L Tx Ix ixLitSet1 fr1)
        else iprop(∃ fr0 fr1 : Buf (Elt F) ((V d (cV L) (jV L)).loc cc5_scratch1),
          ⌜RowsOK L Tx Ix 0 (2 * t) fr0 ∧ RowsOK L Tx Ix 1 (2 * t + 1) fr1⌝
          ∗ gFl0 d L Tx Ix (ixLoopSet0 (tFin (t - 1))) fr0 ∗ gFl1 d L Tx Ix (ixLoopSet1 (tFin (t - 1))) fr1))
    ∗ (∃ frr : Buf (Elt F) ((V d (cV L) (jV L)).loc cc5_scratch1),
        (rwV).view.loc (V d (cV L) (jV L)) ↦[(Finset.univ \ (rwK0).view.set) \ (rwK1).view.set]{fullShare} frr)
    ∗ ((shV).view.loc (V d (cV L) (jV L)) ↦[Finset.univ \ (shAllK).view.set]{(shTok (jV L)).left} Tx)
    ∗ ((shV).view.loc (V d (cV L) (jV L)) ↦[Finset.univ \ (shAllK).view.set]{(shTok (jV L)).right} Tx)
    ∗ (if t = 0 then iprop(∃ fob : Buf (Elt F) ((V d (cV L) (jV L)).loc cc5_scratch2), ((obV).view.loc (V d (cV L) (jV L)) ↦{fullShare} fob)
            ∗ semVal (V d (cV L) (jV L), SemLoc.dma o0sem) 0 ∗ semVal (V d (cV L) (jV L), SemLoc.dma o1sem) 0)
        else iprop(∃ (fob : Buf (Elt F) ((V d (cV L) (jV L)).loc cc5_scratch2)) (fc0 fc1 : S10240x128.Idx → Elt F .f32) (fob0 fob1 : Buf (Elt F) ((V d (cV L) (jV L)).loc cc5_scratch2)),
            ⌜ChunkOK L Tx Ix (tFin (t - 1)) 0 fc0 ∧ ChunkOK L Tx Ix (tFin (t - 1)) 1 fc1⌝
            ∗ oFl0 d L (tFin (t - 1)) fc0 fob0 ∗ oFl1 d L (tFin (t - 1)) fc1 fob1
            ∗ ((obV).view.loc (V d (cV L) (jV L)) ↦[(Finset.univ \ (obK0).view.set) \ (obK1).view.set]{fullShare} fob)))
    ∗ (bigSep Finset.univ fun t' : Fin k5_t1_loop.trips => rowStV d L Tx Ix t t')
    ∗ ∃ W', ⌜∀ p ∈ W', p ∈ W ∨ p.2 = none⌝ ∗ owes (V d (cV L) (jV L)) O W')

/-- The inner loops' invariants: the slot's rows already summed hold their sums. `S` is what of the result scratch is held. -/
def innerInv0 [FloatOps F] (S : Finset S2x4x128.Idx) (n : ℕ) (h : Buf (Elt F) ((V d (cV L) (jV L)).loc cc5_scratch1)) (r : ℕ) (_ : PUnit) : sProp 𝕄 :=
  iprop(∃ fob' : Buf (Elt F) ((V d (cV L) (jV L)).loc cc5_scratch2), ⌜SumsOK L Tx Ix 0 n r fob'⌝
    ∗ ((rwV).view.loc (V d (cV L) (jV L)) ↦[Finset.univ \ (rwK1).view.set]{fullShare} h)
    ∗ ((obV).view.loc (V d (cV L) (jV L)) ↦[S]{fullShare} fob'))
def innerInv1 [FloatOps F] (n : ℕ) (h : Buf (Elt F) ((V d (cV L) (jV L)).loc cc5_scratch1)) (r : ℕ) (_ : PUnit) : sProp 𝕄 :=
  iprop(∃ fob' : Buf (Elt F) ((V d (cV L) (jV L)).loc cc5_scratch2), ⌜SumsOK L Tx Ix 1 n r fob'⌝
    ∗ ((rwV).view.loc (V d (cV L) (jV L)) ↦[Finset.univ \ (rwK0).view.set]{fullShare} h)
    ∗ ((obV).view.loc (V d (cV L) (jV L)) ↦[Finset.univ \ (obK0).view.set]{fullShare} fob'))

end InvV

end Body
end Cert.Proof.TileB2
end
-- ==== Proof.BodyTripC2K.lean ====
/-
  One trip of the gather-sum kernel's forty on a vector subcore, from the trips' invariant to itself one trip on: for each
  of the two slots, its gather waited for (and, past the first trip, its previous copy-out), the slot's four rows summed
  (a loop of four, each the tree sum of 32 rows, 16 lanes at a time), the sums copied out to the trip's chunk, the slot's
  next gather started.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC2K
import proofs.«205366_g3083786518796_cont_9to1_852_38_alg».proof.Proof.BodyLemmasC2K
import proofs.«205366_g3083786518796_cont_9to1_852_38_alg».proof.Proof.BodyInvC2K
import proofs.«205366_g3083786518796_cont_9to1_852_38_alg».proof.Proof.BodyJoinC2K

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

section Body
variable (d : Dev nD) (L : grid5.Coords)

theorem rowSt_ne {t : ℕ} {t' : Fin k5_t1_loop.trips} (h : t'.val + 1 ≠ t) :
    (rowSt (U := U) (F := F) d L t t' : sProp 𝕄)
      = iprop((∃ f, (oChunkK L t' 0).view.loc (V d (cV L) (jV L)) ↦[(oChunkK L t' 0).view.set]{fullShare} f)
        ∗ (∃ f, (oChunkK L t' 1).view.loc (V d (cV L) (jV L)) ↦[(oChunkK L t' 1).view.set]{fullShare} f)) := by
  unfold rowSt; rw [if_neg h]
theorem rowSt_eq {t : ℕ} {t' : Fin k5_t1_loop.trips} (h : t'.val + 1 = t) : (rowSt (U := U) (F := F) d L t t' : sProp 𝕄) = iprop(emp) := by
  unfold rowSt; rw [if_pos h]

theorem cond1_zero {k : Fin k5_t1_loop.trips} (hk : k.val = 0) : ¬ k5_cond1 k = 1#1 := by
  have : k = ⟨0, by decide⟩ := Fin.ext hk
  subst this; decide
theorem cond2_zero {k : Fin k5_t1_loop.trips} (hk : k.val = 0) : ¬ k5_cond2 k = 1#1 := by
  have : k = ⟨0, by decide⟩ := Fin.ext hk
  subst this; decide
theorem cond1_pos : ∀ k : Fin k5_t1_loop.trips, k.val ≠ 0 → k5_cond1 k = 1#1 := by decide
theorem cond2_pos : ∀ k : Fin k5_t1_loop.trips, k.val ≠ 0 → k5_cond2 k = 1#1 := by decide

/-- The chunk rows after the first trip: its own two chunks are in flight, the others as before. -/
theorem rows_step0 (k : Fin k5_t1_loop.trips) (hk : k.val = 0) :
    (bigSep (Finset.univ.erase k) fun t' : Fin k5_t1_loop.trips => rowSt (U := U) (F := F) d L k.val t')
    ⊢ bigSep Finset.univ fun t' : Fin k5_t1_loop.trips => rowSt (U := U) (F := F) d L (k.val + 1) t' := by
  have hrest : Idealize.SL.BI.Entails
      (bigSep (Finset.univ.erase k) fun t' : Fin k5_t1_loop.trips => rowSt (U := U) (F := F) d L k.val t')
      (bigSep (Finset.univ.erase k) fun t' : Fin k5_t1_loop.trips => rowSt (U := U) (F := F) d L (k.val + 1) t') :=
    bigSep_mono fun t' ht' => by
      have hne : t' ≠ k := (Finset.mem_erase.mp ht').1
      have h1 : t'.val + 1 ≠ k.val := by omega
      have h2 : t'.val + 1 ≠ k.val + 1 := fun h => hne (Fin.ext (by omega))
      rw [rowSt_ne (F := F) (U := U) d L h1, rowSt_ne (F := F) (U := U) d L h2]
      exact BI.Entails.refl _
  iintro H
  iapply (Entails.of_eq (SparseCore.bigSep_erase' (Φ := fun t' : Fin k5_t1_loop.trips => rowSt (U := U) (F := F) d L (k.val + 1) t') (Finset.mem_univ k)).symm)
  isplitr
  · rw [rowSt_eq (F := F) (U := U) d L rfl]; iempintro
  · iapply (SparseCore.ent hrest) $$ H

/-- The chunk rows after a later trip: its own two chunks are in flight, the previous trip's two are back. -/
theorem rows_stepS (k : Fin k5_t1_loop.trips) (hk : k.val ≠ 0)
    (fc0 : Buf (Elt F) ((oChunkK L (tFin (k.val - 1)) 0).view.loc (V d (cV L) (jV L))))
    (fc1 : Buf (Elt F) ((oChunkK L (tFin (k.val - 1)) 1).view.loc (V d (cV L) (jV L)))) :
    iprop((bigSep (Finset.univ.erase k) fun t' : Fin k5_t1_loop.trips => rowSt (U := U) (F := F) d L k.val t')
      ∗ ((oChunkK L (tFin (k.val - 1)) 0).view.loc (V d (cV L) (jV L)) ↦[(oChunkK L (tFin (k.val - 1)) 0).view.set]{fullShare} fc0)
      ∗ ((oChunkK L (tFin (k.val - 1)) 1).view.loc (V d (cV L) (jV L)) ↦[(oChunkK L (tFin (k.val - 1)) 1).view.set]{fullShare} fc1))
    ⊢ bigSep Finset.univ fun t' : Fin k5_t1_loop.trips => rowSt (U := U) (F := F) d L (k.val + 1) t' := by
  have h40 := lt_of_lt_of_eq k.isLt k5_trips_eq
  have hkm : (tFin (k.val - 1)).val + 1 = k.val := by show min (k.val - 1) 39 + 1 = k.val; omega
  have hne : tFin (k.val - 1) ≠ k := fun h => by have := congrArg Fin.val h; omega
  have hmem : tFin (k.val - 1) ∈ Finset.univ.erase k := Finset.mem_erase.mpr ⟨hne, Finset.mem_univ _⟩
  have hrest : Idealize.SL.BI.Entails
      (bigSep ((Finset.univ.erase k).erase (tFin (k.val - 1))) fun t' : Fin k5_t1_loop.trips => rowSt (U := U) (F := F) d L k.val t')
      (bigSep ((Finset.univ.erase k).erase (tFin (k.val - 1))) fun t' : Fin k5_t1_loop.trips => rowSt (U := U) (F := F) d L (k.val + 1) t') :=
    bigSep_mono fun t' ht' => by
      have h1 : t' ≠ tFin (k.val - 1) := (Finset.mem_erase.mp ht').1
      have h2 : t' ≠ k := (Finset.mem_erase.mp (Finset.mem_erase.mp ht').2).1
      have e1 : t'.val + 1 ≠ k.val := fun h => h1 (Fin.ext (by omega))
      have e2 : t'.val + 1 ≠ k.val + 1 := fun h => h2 (Fin.ext (by omega))
      rw [rowSt_ne (F := F) (U := U) d L e1, rowSt_ne (F := F) (U := U) d L e2]
      exact BI.Entails.refl _
  iintro ⟨H, H0, H1⟩
  ihave Hs := (Entails.of_eq (SparseCore.bigSep_erase' (Φ := fun t' : Fin k5_t1_loop.trips => rowSt (U := U) (F := F) d L k.val t') hmem)) $$ H
  icases Hs with ⟨-, Hrest⟩
  iapply (Entails.of_eq (SparseCore.bigSep_erase' (Φ := fun t' : Fin k5_t1_loop.trips => rowSt (U := U) (F := F) d L (k.val + 1) t') (Finset.mem_univ k)).symm)
  isplitr
  · rw [rowSt_eq (F := F) (U := U) d L rfl]; iempintro
  iapply (Entails.of_eq (SparseCore.bigSep_erase' (Φ := fun t' : Fin k5_t1_loop.trips => rowSt (U := U) (F := F) d L (k.val + 1) t') hmem).symm)
  isplitl [H0 H1]
  · rw [rowSt_ne (F := F) (U := U) d L (show (tFin (k.val - 1)).val + 1 ≠ k.val + 1 by omega)]
    isplitl [H0]; · iexists fc0; iexact H0
    iexists fc1; iexact H1
  · iapply (SparseCore.ent hrest) $$ Hrest

set_option maxHeartbeats 8000000 in
/-- The first trip: no copy-out is pending. -/
theorem trip0 (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k5_t1_loop.trips) (hk : k.val = 0) (x : PUnit) :
    tripInv (U := U) d L Tx Ix O W k.val x
      ⊢ wp frame (wpE (defs₀ (F := F)) 𝒱₀ (V d (cV L) (jV L)) none) Set.univ
          (k5_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k x)
          fun y => tripInv (U := U) d L Tx Ix O W (k.val + 1) y := by
  have hc1 := cond1_zero hk
  have hc2 := cond2_zero hk
  have hrow : (k.val + 1 ≠ k.val) := Nat.succ_ne_self _
  unfold tripInv
  rw [if_pos hk, if_pos hk]
  unfold gFl0 gFl1
  iintro ⟨#Hmw, ⟨%fr0, %fr1, ⟨FG0, Hix0⟩, ⟨FG1, Hix1⟩⟩, ⟨%frr, Hrwr⟩, Hsh0, Hsh1, ⟨%fob, Hob, Hso0, Hso1⟩, Hrows, ⟨%W', %hW', HO⟩⟩
  ihave Hr := (Entails.of_eq (SparseCore.bigSep_erase' (Φ := fun t' : Fin k5_t1_loop.trips => rowSt (U := U) (F := F) d L k.val t') (Finset.mem_univ k))) $$ Hrows
  icases Hr with ⟨Hrow, Hrest⟩
  ihave Hrow' := (Entails.of_eq (rowSt_ne (F := F) (U := U) d L hrow)) $$ Hrow
  icases Hrow' with ⟨⟨%fc0, Hoc0⟩, ⟨%fc1, Hoc1⟩⟩
  unfold k5_t1_body
  -- slot 0: its gather waited for
  sl_exec
  -- slot 0 of the row scratch, back from its gather, joined to what is held of the scratch
  ihave Hj := (pts_join (F := F) (U := U) (sdiff_join_disj rw_slots_disjoint) fr0 frr) $$ [FG0_dst Hrwr]
  · isplitl [FG0_dst]; · iexact FG0_dst
    iexact Hrwr
  icases Hj with ⟨%g1, Hrw⟩
  rw [sdiff_join_left rw_slots_disjoint]
  -- the four sums of slot 0
  sl_for (fun (_ : Nat) (_ : PUnit) => (iprop(∃ fob' : Buf (Elt F) ((V d (cV L) (jV L)).loc cc5_scratch2),
      ((rwV).view.loc (V d (cV L) (jV L)) ↦[Finset.univ \ (rwK1).view.set]{fullShare} g1)
      ∗ ((obV).view.loc (V d (cV L) (jV L)) ↦{fullShare} fob')) : sProp 𝕄)) $$ [Hrw Hob]
  case region =>
    intro k2 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobA, Hrw, Hob⟩
  -- slot 0 copied out, its next gather started; slot 1's gather waited for
  sl_exec
  -- slot 1 of the row scratch joined
  ihave Hj := (pts_join (F := F) (U := U) (sdiff_join_disj rw_slots_disjoint.symm) fr1 _) $$ [FG1_dst Hrw]
  · isplitl [FG1_dst]; · iexact FG1_dst
    iexact Hrw
  icases Hj with ⟨%g2, Hrw⟩
  rw [sdiff_join_left rw_slots_disjoint.symm]
  -- the four sums of slot 1
  sl_for (fun (_ : Nat) (_ : PUnit) => (iprop(∃ fob' : Buf (Elt F) ((V d (cV L) (jV L)).loc cc5_scratch2),
      ((rwV).view.loc (V d (cV L) (jV L)) ↦[Finset.univ \ (rwK0).view.set]{fullShare} g2)
      ∗ ((obV).view.loc (V d (cV L) (jV L)) ↦[Finset.univ \ (obK0).view.set]{fullShare} fob')) : sProp 𝕄)) $$ [Hrw Hob]
  case region =>
    intro k3 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobB, Hrw, Hob⟩
  -- slot 1 copied out, its next gather started
  sl_exec
  sl_step
  -- the invariant, one trip on
  rw [if_neg (Nat.succ_ne_zero k.val), if_neg (Nat.succ_ne_zero k.val), Nat.add_sub_cancel, tFin_val]
  unfold oFl0 oFl1
  isplitr; · iexact Hmw
  isplitl [FG0 Hix0 FG1 Hix1]
  · iexists _; iexists _
    isplitl [FG0 Hix0]
    · isplitl [FG0]; · iexact FG0
      iexact Hix0
    · isplitl [FG1]; · iexact FG1
      iexact Hix1
  isplitl [Hrw]; · iexists _; iexact Hrw
  isplitl [Hsh0]; · iexact Hsh0
  isplitl [Hsh1]; · iexact Hsh1
  isplitl [Hso0 Hso1 Hob]
  · iexists _; iexists _; iexists _; iexists _; iexists _
    isplitl [Hso0]; · iexact Hso0
    isplitl [Hso1]; · iexact Hso1
    iexact Hob
  isplitl [Hrest]; · iapply (rows_step0 (F := F) (U := U) d L k hk); iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
/-- A later trip: the previous trip's two copy-outs are pending. -/
theorem tripS (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k5_t1_loop.trips) (hk : k.val ≠ 0) (x : PUnit) :
    tripInv (U := U) d L Tx Ix O W k.val x
      ⊢ wp frame (wpE (defs₀ (F := F)) 𝒱₀ (V d (cV L) (jV L)) none) Set.univ
          (k5_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k x)
          fun y => tripInv (U := U) d L Tx Ix O W (k.val + 1) y := by
  have hc1 := cond1_pos k hk
  have hc2 := cond2_pos k hk
  have hrow : (k.val + 1 ≠ k.val) := Nat.succ_ne_self _
  unfold tripInv
  rw [if_neg hk, if_neg hk]
  unfold gFl0 gFl1 oFl0 oFl1
  iintro ⟨#Hmw, ⟨%fr0, %fr1, ⟨FG0, Hix0⟩, ⟨FG1, Hix1⟩⟩, ⟨%frr, Hrwr⟩, Hsh0, Hsh1, ⟨%fob, %fc0p, %fc1p, %fob0, %fob1, FO0, FO1, Hobr⟩, Hrows, ⟨%W', %hW', HO⟩⟩
  ihave Hr := (Entails.of_eq (SparseCore.bigSep_erase' (Φ := fun t' : Fin k5_t1_loop.trips => rowSt (U := U) (F := F) d L k.val t') (Finset.mem_univ k))) $$ Hrows
  icases Hr with ⟨Hrow, Hrest⟩
  ihave Hrow' := (Entails.of_eq (rowSt_ne (F := F) (U := U) d L hrow)) $$ Hrow
  icases Hrow' with ⟨⟨%fc0, Hoc0⟩, ⟨%fc1, Hoc1⟩⟩
  unfold k5_t1_body
  -- slot 0: its gather waited for
  sl_exec
  -- slot 0 of the row scratch, back from its gather, joined to what is held of the scratch
  ihave Hj := (pts_join (F := F) (U := U) (sdiff_join_disj rw_slots_disjoint) fr0 frr) $$ [FG0_dst Hrwr]
  · isplitl [FG0_dst]; · iexact FG0_dst
    iexact Hrwr
  icases Hj with ⟨%g1, Hrw⟩
  rw [sdiff_join_left rw_slots_disjoint]
  -- slot 0 of the result scratch, back from its copy-out, joined to what is held of the scratch
  ihave Hjo := (pts_join (F := F) (U := U) (sdiff_join_disj ob_slots_disjoint) fob0 fob) $$ [FO0_src Hobr]
  · isplitl [FO0_src]; · iexact FO0_src
    iexact Hobr
  icases Hjo with ⟨%go1, Hob⟩
  rw [sdiff_join_left ob_slots_disjoint]
  -- the four sums of slot 0
  sl_for (fun (_ : Nat) (_ : PUnit) => (iprop(∃ fob' : Buf (Elt F) ((V d (cV L) (jV L)).loc cc5_scratch2),
      ((rwV).view.loc (V d (cV L) (jV L)) ↦[Finset.univ \ (rwK1).view.set]{fullShare} g1)
      ∗ ((obV).view.loc (V d (cV L) (jV L)) ↦[Finset.univ \ (obK1).view.set]{fullShare} fob')) : sProp 𝕄)) $$ [Hrw Hob]
  case region =>
    intro k2 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobA, Hrw, Hob⟩
  -- slot 0 copied out, its next gather started; slot 1's gather waited for
  sl_exec
  -- slot 1 of the row scratch joined
  ihave Hj := (pts_join (F := F) (U := U) (sdiff_join_disj rw_slots_disjoint.symm) fr1 _) $$ [FG1_dst Hrw]
  · isplitl [FG1_dst]; · iexact FG1_dst
    iexact Hrw
  icases Hj with ⟨%g2, Hrw⟩
  rw [sdiff_join_left rw_slots_disjoint.symm]
  -- slot 1 of the result scratch joined
  ihave Hjo := (pts_join (F := F) (U := U) (sdiff_join_disj ob_slots_disjoint.symm) fob1 _) $$ [FO1_src Hob]
  · isplitl [FO1_src]; · iexact FO1_src
    iexact Hob
  icases Hjo with ⟨%go2, Hob⟩
  rw [sdiff_join_left ob_slots_disjoint.symm]
  -- the four sums of slot 1
  sl_for (fun (_ : Nat) (_ : PUnit) => (iprop(∃ fob' : Buf (Elt F) ((V d (cV L) (jV L)).loc cc5_scratch2),
      ((rwV).view.loc (V d (cV L) (jV L)) ↦[Finset.univ \ (rwK0).view.set]{fullShare} g2)
      ∗ ((obV).view.loc (V d (cV L) (jV L)) ↦[Finset.univ \ (obK0).view.set]{fullShare} fob')) : sProp 𝕄)) $$ [Hrw Hob]
  case region =>
    intro k3 _
    iintro ⟨%fob', Hrw, Hob⟩
    sl_exec
    sl_step
    iexists _
    isplitl [Hrw]; · iexact Hrw
    iexact Hob
  · iexists _
    isplitl [Hrw]; · iexact Hrw
    iexact Hob
  iintro %_ HI
  icases HI with ⟨%fobB, Hrw, Hob⟩
  -- slot 1 copied out, its next gather started
  sl_exec
  sl_step
  -- the invariant, one trip on
  rw [if_neg (Nat.succ_ne_zero k.val), if_neg (Nat.succ_ne_zero k.val), Nat.add_sub_cancel, tFin_val]
  isplitr; · iexact Hmw
  isplitl [FG0 Hix0 FG1 Hix1]
  · iexists _; iexists _
    isplitl [FG0 Hix0]
    · isplitl [FG0]; · iexact FG0
      iexact Hix0
    · isplitl [FG1]; · iexact FG1
      iexact Hix1
  isplitl [Hrw]; · iexists _; iexact Hrw
  isplitl [Hsh0]; · iexact Hsh0
  isplitl [Hsh1]; · iexact Hsh1
  isplitl [FO0 FO1 Hob]
  · iexists _; iexists _; iexists _; iexists _; iexists _
    isplitl [FO0]; · iexact FO0
    isplitl [FO1]; · iexact FO1
    iexact Hob
  isplitl [Hrest FO0_dst FO1_dst]
  · iapply (rows_stepS (F := F) (U := U) d L k hk fc0p fc1p)
    isplitl [Hrest]; · iexact Hrest
    isplitl [FO0_dst]; · iexact FO0_dst
    iexact FO1_dst
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One trip of the forty. -/
theorem trip_region (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k5_t1_loop.trips) (x : PUnit) :
    tripInv (U := U) d L Tx Ix O W k.val x
      ⊢ wp frame (wpE (defs₀ (F := F)) 𝒱₀ (V d (cV L) (jV L)) none) Set.univ
          (k5_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k x)
          fun y => tripInv (U := U) d L Tx Ix O W (k.val + 1) y := by
  by_cases hk : k.val = 0
  · exact trip0 (F := F) (U := U) d L Tx Ix hinR O W v2 k hk x
  · exact tripS (F := F) (U := U) d L Tx Ix hinR O W v2 k hk x

end Body
end Cert.Proof.TileB2
end
-- ==== Proof.BodyStepVC2K.lean ====
/-
  Small steps for the valued trips: joining pieces while keeping a piece's contents, the slots' elements, the chunk rows'
  three states and their update from trip to trip.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC2K
import proofs.«205366_g3083786518796_cont_9to1_852_38_alg».proof.Proof.BodyLemmasC2K
import proofs.«205366_g3083786518796_cont_9to1_852_38_alg».proof.Proof.BodyInvC2K
import proofs.«205366_g3083786518796_cont_9to1_852_38_alg».proof.Proof.BodyJoinC2K
import proofs.«205366_g3083786518796_cont_9to1_852_38_alg».proof.Proof.GSumK
import proofs.«205366_g3083786518796_cont_9to1_852_38_alg».proof.Proof.BodyInvVC2K
import proofs.«205366_g3083786518796_cont_9to1_852_38_alg».proof.Proof.BodyTripC2K
import Idealize.ShloMosaic.Lib.ValueIdx

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

section Body
variable (d : Dev nD) (L : grid5.Coords)

open Idealize.ShloMosaic.ValueIdx (ix1 ix2 ix3)

/-- Two pieces joined, the join keeping the first piece's contents on its elements. -/
theorem pts_joinV {ℓ : Loc nD τ sig} {q : PosShare TreeShare} {A B : Finset (Idx ℓ)} (h : Disjoint A B) (f g : Buf (Elt F) ℓ) :
    iprop((ℓ ↦[A]{q} f) ∗ (ℓ ↦[B]{q} g)) ⊢ (iprop(∃ h : Buf (Elt F) ℓ, ⌜∀ i ∈ A, h i = f i⌝ ∗ (ℓ ↦[A ∪ B]{q} h)) : sProp 𝕄) := by
  classical
  have e1 : (ℓ ↦[A]{q} f : sProp 𝕄) = ℓ ↦[A]{q} (fun i => if i ∈ A then f i else g i) := pointsTo_congr fun i hi => by simp [hi]
  have e2 : (ℓ ↦[B]{q} g : sProp 𝕄) = ℓ ↦[B]{q} (fun i => if i ∈ A then f i else g i) := pointsTo_congr fun i hi => by
    have : i ∉ A := fun ha => (Finset.disjoint_left.mp h ha hi)
    simp [this]
  iintro ⟨HA, HB⟩
  iexists (fun i => if i ∈ A then f i else g i)
  isplitr
  · ipureintro; intro i hi; simp [hi]
  ihave HA' := (Entails.of_eq e1) $$ HA
  ihave HB' := (Entails.of_eq e2) $$ HB
  iapply (pointsTo_split_subset (S := A ∪ B) (I := A) Finset.subset_union_left).2
  isplitl [HA']; · iexact HA'
  rw [Finset.union_sdiff_cancel_left h]; iexact HB'

theorem mem_rwK0 (r j : Fin 128) : (ix3 (0 : Fin 2) r j : S2x128x128.Idx) ∈ (rwK0).view.set := by
  rw [set_rwK0, Rect.mem_set_unit]
  intro a
  match a with
  | 0 => exact ⟨Nat.le_refl _, by show (0 : ℕ) < 0 + 1; omega⟩
  | 1 => exact ⟨Nat.zero_le _, by simpa using r.isLt⟩
  | 2 => exact ⟨Nat.zero_le _, by simpa using j.isLt⟩
theorem mem_rwK1 (r j : Fin 128) : (ix3 (1 : Fin 2) r j : S2x128x128.Idx) ∈ (rwK1).view.set := by
  rw [set_rwK1, Rect.mem_set_unit]
  intro a
  match a with
  | 0 => exact ⟨Nat.le_refl _, by show (1 : ℕ) < 1 + 1; omega⟩
  | 1 => exact ⟨Nat.zero_le _, by simpa using r.isLt⟩
  | 2 => exact ⟨Nat.zero_le _, by simpa using j.isLt⟩

section V
variable (Tx : S10000x128.Idx → Elt F .f32) (Ix : S32x10496.Idx → Elt F .i32)

theorem RowsOK_of_eq0 {n : ℕ} {f h : S2x128x128.Idx → Elt F .f32} (hf : RowsOK L Tx Ix 0 n f) (he : ∀ i ∈ (rwK0).view.set, h i = f i) : RowsOK L Tx Ix 0 n h :=
  fun r j => (he _ (mem_rwK0 r j)).trans (hf r j)
theorem RowsOK_of_eq1 {n : ℕ} {f h : S2x128x128.Idx → Elt F .f32} (hf : RowsOK L Tx Ix 1 n f) (he : ∀ i ∈ (rwK1).view.set, h i = f i) : RowsOK L Tx Ix 1 n h :=
  fun r j => (he _ (mem_rwK1 r j)).trans (hf r j)
theorem SumsOK_zero (b : Fin 2) (n : ℕ) (fob : S2x4x128.Idx → Elt F .f32) : SumsOK L Tx Ix b n 0 fob := fun _ _ h => absurd h (Nat.not_lt_zero _)

theorem rowStV_eq {t : ℕ} {t' : Fin k5_t1_loop.trips} (h : t'.val + 1 = t) : (rowStV (U := U) (F := F) d L Tx Ix t t' : sProp 𝕄) = iprop(emp) := by
  unfold rowStV; rw [if_pos h]
theorem rowStV_done {t : ℕ} {t' : Fin k5_t1_loop.trips} (h : t'.val + 1 ≠ t) (h2 : t'.val < t) :
    (rowStV (U := U) (F := F) d L Tx Ix t t' : sProp 𝕄)
      = iprop((∃ f, ⌜ChunkOK L Tx Ix t' 0 f⌝ ∗ ((oChunkK L t' 0).view.loc (V d (cV L) (jV L)) ↦[(oChunkK L t' 0).view.set]{fullShare} f))
        ∗ (∃ f, ⌜ChunkOK L Tx Ix t' 1 f⌝ ∗ ((oChunkK L t' 1).view.loc (V d (cV L) (jV L)) ↦[(oChunkK L t' 1).view.set]{fullShare} f))) := by
  unfold rowStV; rw [if_neg h, if_pos h2]
theorem rowStV_todo {t : ℕ} {t' : Fin k5_t1_loop.trips} (h : t'.val + 1 ≠ t) (h2 : ¬ t'.val < t) :
    (rowStV (U := U) (F := F) d L Tx Ix t t' : sProp 𝕄)
      = iprop((∃ f, (oChunkK L t' 0).view.loc (V d (cV L) (jV L)) ↦[(oChunkK L t' 0).view.set]{fullShare} f)
        ∗ (∃ f, (oChunkK L t' 1).view.loc (V d (cV L) (jV L)) ↦[(oChunkK L t' 1).view.set]{fullShare} f)) := by
  unfold rowStV; rw [if_neg h, if_neg h2]

/-- The chunk rows after the first trip. -/
theorem rows_step0V (k : Fin k5_t1_loop.trips) (hk : k.val = 0) :
    (bigSep (Finset.univ.erase k) fun t' : Fin k5_t1_loop.trips => rowStV (U := U) (F := F) d L Tx Ix k.val t')
    ⊢ bigSep Finset.univ fun t' : Fin k5_t1_loop.trips => rowStV (U := U) (F := F) d L Tx Ix (k.val + 1) t' := by
  have hrest : Idealize.SL.BI.Entails
      (bigSep (Finset.univ.erase k) fun t' : Fin k5_t1_loop.trips => rowStV (U := U) (F := F) d L Tx Ix k.val t')
      (bigSep (Finset.univ.erase k) fun t' : Fin k5_t1_loop.trips => rowStV (U := U) (F := F) d L Tx Ix (k.val + 1) t') :=
    bigSep_mono fun t' ht' => by
      have hne : t' ≠ k := (Finset.mem_erase.mp ht').1
      have hv : t'.val ≠ k.val := fun h => hne (Fin.ext h)
      rw [rowStV_todo (F := F) (U := U) d L Tx Ix (show t'.val + 1 ≠ k.val by omega) (show ¬ t'.val < k.val by omega),
        rowStV_todo (F := F) (U := U) d L Tx Ix (show t'.val + 1 ≠ k.val + 1 by omega) (show ¬ t'.val < k.val + 1 by omega)]
      exact BI.Entails.refl _
  iintro H
  iapply (Entails.of_eq (SparseCore.bigSep_erase' (Φ := fun t' : Fin k5_t1_loop.trips => rowStV (U := U) (F := F) d L Tx Ix (k.val + 1) t') (Finset.mem_univ k)).symm)
  isplitr
  · rw [rowStV_eq (F := F) (U := U) d L Tx Ix rfl]; iempintro
  · iapply (SparseCore.ent hrest) $$ H

/-- The chunk rows after a later trip: the previous trip's two chunks are back, holding their sums. -/
theorem rows_stepSV (k : Fin k5_t1_loop.trips) (hk : k.val ≠ 0)
    (fc0 : Buf (Elt F) ((oChunkK L (tFin (k.val - 1)) 0).view.loc (V d (cV L) (jV L))))
    (fc1 : Buf (Elt F) ((oChunkK L (tFin (k.val - 1)) 1).view.loc (V d (cV L) (jV L))))
    (h0 : ChunkOK L Tx Ix (tFin (k.val - 1)) 0 fc0) (h1 : ChunkOK L Tx Ix (tFin (k.val - 1)) 1 fc1) :
    iprop((bigSep (Finset.univ.erase k) fun t' : Fin k5_t1_loop.trips => rowStV (U := U) (F := F) d L Tx Ix k.val t')
      ∗ ((oChunkK L (tFin (k.val - 1)) 0).view.loc (V d (cV L) (jV L)) ↦[(oChunkK L (tFin (k.val - 1)) 0).view.set]{fullShare} fc0)
      ∗ ((oChunkK L (tFin (k.val - 1)) 1).view.loc (V d (cV L) (jV L)) ↦[(oChunkK L (tFin (k.val - 1)) 1).view.set]{fullShare} fc1))
    ⊢ bigSep Finset.univ fun t' : Fin k5_t1_loop.trips => rowStV (U := U) (F := F) d L Tx Ix (k.val + 1) t' := by
  have h40 := lt_of_lt_of_eq k.isLt k5_trips_eq
  have hkm : (tFin (k.val - 1)).val + 1 = k.val := by show min (k.val - 1) 39 + 1 = k.val; omega
  have hne : tFin (k.val - 1) ≠ k := fun h => by have := congrArg Fin.val h; omega
  have hmem : tFin (k.val - 1) ∈ Finset.univ.erase k := Finset.mem_erase.mpr ⟨hne, Finset.mem_univ _⟩
  have hrest : Idealize.SL.BI.Entails
      (bigSep ((Finset.univ.erase k).erase (tFin (k.val - 1))) fun t' : Fin k5_t1_loop.trips => rowStV (U := U) (F := F) d L Tx Ix k.val t')
      (bigSep ((Finset.univ.erase k).erase (tFin (k.val - 1))) fun t' : Fin k5_t1_loop.trips => rowStV (U := U) (F := F) d L Tx Ix (k.val + 1) t') :=
    bigSep_mono fun t' ht' => by
      have h1' : t' ≠ tFin (k.val - 1) := (Finset.mem_erase.mp ht').1
      have h2' : t' ≠ k := (Finset.mem_erase.mp (Finset.mem_erase.mp ht').2).1
      have e1 : t'.val + 1 ≠ k.val := fun h => h1' (Fin.ext (by omega))
      have e2 : t'.val ≠ k.val := fun h => h2' (Fin.ext h)
      by_cases hlt : t'.val < k.val
      · rw [rowStV_done (F := F) (U := U) d L Tx Ix e1 hlt, rowStV_done (F := F) (U := U) d L Tx Ix (show t'.val + 1 ≠ k.val + 1 by omega) (show t'.val < k.val + 1 by omega)]
        exact BI.Entails.refl _
      · rw [rowStV_todo (F := F) (U := U) d L Tx Ix e1 hlt, rowStV_todo (F := F) (U := U) d L Tx Ix (show t'.val + 1 ≠ k.val + 1 by omega) (show ¬ t'.val < k.val + 1 by omega)]
        exact BI.Entails.refl _
  iintro ⟨H, H0, H1⟩
  ihave Hs := (Entails.of_eq (SparseCore.bigSep_erase' (Φ := fun t' : Fin k5_t1_loop.trips => rowStV (U := U) (F := F) d L Tx Ix k.val t') hmem)) $$ H
  icases Hs with ⟨-, Hrest⟩
  iapply (Entails.of_eq (SparseCore.bigSep_erase' (Φ := fun t' : Fin k5_t1_loop.trips => rowStV (U := U) (F := F) d L Tx Ix (k.val + 1) t') (Finset.mem_univ k)).symm)
  isplitr
  · rw [rowStV_eq (F := F) (U := U) d L Tx Ix rfl]; iempintro
  iapply (Entails.of_eq (SparseCore.bigSep_erase' (Φ := fun t' : Fin k5_t1_loop.trips => rowStV (U := U) (F := F) d L Tx Ix (k.val + 1) t') hmem).symm)
  isplitl [H0 H1]
  · rw [rowStV_done (F := F) (U := U) d L Tx Ix (show (tFin (k.val - 1)).val + 1 ≠ k.val + 1 by omega) (show (tFin (k.val - 1)).val < k.val + 1 by omega)]
    isplitl [H0]
    · iexists fc0; isplitr; · ipureintro; exact h0
      iexact H0
    · iexists fc1; isplitr; · ipureintro; exact h1
      iexact H1
  · iapply (SparseCore.ent hrest) $$ Hrest

end V

end Body
end Cert.Proof.TileB2
end
-- ==== Proof.ScTree5K.lean ====
import proofs.«205366_g3083786518796_cont_9to1_852_38_alg».proof.Proof.ScTreeK

noncomputable section

/-!
# The third SparseCore kernel's summing payloads, read at a lane

For every payload of the kernel that adds vectors: `_lane` says the payload at lane `l` is the same pairwise sums of its
arguments' lanes.  For a store's payload (and for the last partial payload of lane group 7, which takes the sixteen
first-level sums): `_tree` says it is `tree32 w` once each argument's lane is known to be the sub-tree of `w` over the
positions that argument stands for — one load, or an earlier part's sum of 2, 4, … loads.
-/

namespace Cert.Proof.KB

open Cert.Kernel Cert.Kernel.Gen
open Idealize.ShloMosaic Idealize.ShloMosaic.ValueIdx

variable {F : FTy → Type} [FloatOps F]

theorem k5_pay1_lane (v114 : Vec F S1x1x16 .f32) (l : Fin 16) :
    k5_pay1 v114 (ix1 l) = v114 (ix3 (0 : Fin 1) (0 : Fin 1) l) := by
  unfold k5_pay1
  exact cast_16 v114 l

theorem k5_pay2_lane (v119 : Vec F S1x1x16 .f32) (l : Fin 16) :
    k5_pay2 v119 (ix1 l) = v119 (ix3 (0 : Fin 1) (0 : Fin 1) l) := by
  unfold k5_pay2
  exact cast_16 v119 l

theorem k5_pay3_lane (v124 : Vec F S1x1x16 .f32) (l : Fin 16) :
    k5_pay3 v124 (ix1 l) = v124 (ix3 (0 : Fin 1) (0 : Fin 1) l) := by
  unfold k5_pay3
  exact cast_16 v124 l

theorem k5_pay4_lane (v129 : Vec F S1x1x16 .f32) (l : Fin 16) :
    k5_pay4 v129 (ix1 l) = v129 (ix3 (0 : Fin 1) (0 : Fin 1) l) := by
  unfold k5_pay4
  exact cast_16 v129 l

theorem k5_pay5_lane (v134 : Vec F S1x1x16 .f32) (l : Fin 16) :
    k5_pay5 v134 (ix1 l) = v134 (ix3 (0 : Fin 1) (0 : Fin 1) l) := by
  unfold k5_pay5
  exact cast_16 v134 l

theorem k5_pay6_lane (v139 : Vec F S1x1x16 .f32) (l : Fin 16) :
    k5_pay6 v139 (ix1 l) = v139 (ix3 (0 : Fin 1) (0 : Fin 1) l) := by
  unfold k5_pay6
  exact cast_16 v139 l

theorem k5_pay7_lane (v144 : Vec F S1x1x16 .f32) (l : Fin 16) :
    k5_pay7 v144 (ix1 l) = v144 (ix3 (0 : Fin 1) (0 : Fin 1) l) := by
  unfold k5_pay7
  exact cast_16 v144 l

theorem k5_pay8_lane (v149 : Vec F S1x1x16 .f32) (l : Fin 16) :
    k5_pay8 v149 (ix1 l) = v149 (ix3 (0 : Fin 1) (0 : Fin 1) l) := by
  unfold k5_pay8
  exact cast_16 v149 l

theorem k5_pay9_lane (v154 : Vec F S1x1x16 .f32) (l : Fin 16) :
    k5_pay9 v154 (ix1 l) = v154 (ix3 (0 : Fin 1) (0 : Fin 1) l) := by
  unfold k5_pay9
  exact cast_16 v154 l

theorem k5_pay10_lane (v159 : Vec F S1x1x16 .f32) (l : Fin 16) :
    k5_pay10 v159 (ix1 l) = v159 (ix3 (0 : Fin 1) (0 : Fin 1) l) := by
  unfold k5_pay10
  exact cast_16 v159 l

theorem k5_pay11_lane (v164 : Vec F S1x1x16 .f32) (l : Fin 16) :
    k5_pay11 v164 (ix1 l) = v164 (ix3 (0 : Fin 1) (0 : Fin 1) l) := by
  unfold k5_pay11
  exact cast_16 v164 l

theorem k5_pay12_lane (v169 : Vec F S1x1x16 .f32) (l : Fin 16) :
    k5_pay12 v169 (ix1 l) = v169 (ix3 (0 : Fin 1) (0 : Fin 1) l) := by
  unfold k5_pay12
  exact cast_16 v169 l

theorem k5_pay13_lane (v174 : Vec F S1x1x16 .f32) (l : Fin 16) :
    k5_pay13 v174 (ix1 l) = v174 (ix3 (0 : Fin 1) (0 : Fin 1) l) := by
  unfold k5_pay13
  exact cast_16 v174 l

theorem k5_pay14_lane (v179 : Vec F S1x1x16 .f32) (l : Fin 16) :
    k5_pay14 v179 (ix1 l) = v179 (ix3 (0 : Fin 1) (0 : Fin 1) l) := by
  unfold k5_pay14
  exact cast_16 v179 l

theorem k5_pay15_lane (v184 : Vec F S1x1x16 .f32) (l : Fin 16) :
    k5_pay15 v184 (ix1 l) = v184 (ix3 (0 : Fin 1) (0 : Fin 1) l) := by
  unfold k5_pay15
  exact cast_16 v184 l

theorem k5_pay16_lane (v189 : Vec F S1x1x16 .f32) (l : Fin 16) :
    k5_pay16 v189 (ix1 l) = v189 (ix3 (0 : Fin 1) (0 : Fin 1) l) := by
  unfold k5_pay16
  exact cast_16 v189 l

theorem k5_pay17_lane (v194 : Vec F S1x1x16 .f32) (l : Fin 16) :
    k5_pay17 v194 (ix1 l) = v194 (ix3 (0 : Fin 1) (0 : Fin 1) l) := by
  unfold k5_pay17
  exact cast_16 v194 l

theorem k5_pay18_lane (v199 : Vec F S1x1x16 .f32) (l : Fin 16) :
    k5_pay18 v199 (ix1 l) = v199 (ix3 (0 : Fin 1) (0 : Fin 1) l) := by
  unfold k5_pay18
  exact cast_16 v199 l

theorem k5_pay19_lane (v204 : Vec F S1x1x16 .f32) (l : Fin 16) :
    k5_pay19 v204 (ix1 l) = v204 (ix3 (0 : Fin 1) (0 : Fin 1) l) := by
  unfold k5_pay19
  exact cast_16 v204 l

theorem k5_pay20_lane (v209 : Vec F S1x1x16 .f32) (l : Fin 16) :
    k5_pay20 v209 (ix1 l) = v209 (ix3 (0 : Fin 1) (0 : Fin 1) l) := by
  unfold k5_pay20
  exact cast_16 v209 l

theorem k5_pay21_lane (v214 : Vec F S1x1x16 .f32) (l : Fin 16) :
    k5_pay21 v214 (ix1 l) = v214 (ix3 (0 : Fin 1) (0 : Fin 1) l) := by
  unfold k5_pay21
  exact cast_16 v214 l

theorem k5_pay22_lane (v219 : Vec F S1x1x16 .f32) (l : Fin 16) :
    k5_pay22 v219 (ix1 l) = v219 (ix3 (0 : Fin 1) (0 : Fin 1) l) := by
  unfold k5_pay22
  exact cast_16 v219 l

theorem k5_pay23_lane (v224 : Vec F S1x1x16 .f32) (l : Fin 16) :
    k5_pay23 v224 (ix1 l) = v224 (ix3 (0 : Fin 1) (0 : Fin 1) l) := by
  unfold k5_pay23
  exact cast_16 v224 l

theorem k5_pay24_lane (v229 : Vec F S1x1x16 .f32) (l : Fin 16) :
    k5_pay24 v229 (ix1 l) = v229 (ix3 (0 : Fin 1) (0 : Fin 1) l) := by
  unfold k5_pay24
  exact cast_16 v229 l

theorem k5_pay25_lane (v234 : Vec F S1x1x16 .f32) (l : Fin 16) :
    k5_pay25 v234 (ix1 l) = v234 (ix3 (0 : Fin 1) (0 : Fin 1) l) := by
  unfold k5_pay25
  exact cast_16 v234 l

theorem k5_pay26_lane (v239 : Vec F S1x1x16 .f32) (l : Fin 16) :
    k5_pay26 v239 (ix1 l) = v239 (ix3 (0 : Fin 1) (0 : Fin 1) l) := by
  unfold k5_pay26
  exact cast_16 v239 l

theorem k5_pay27_lane (v244 : Vec F S1x1x16 .f32) (l : Fin 16) :
    k5_pay27 v244 (ix1 l) = v244 (ix3 (0 : Fin 1) (0 : Fin 1) l) := by
  unfold k5_pay27
  exact cast_16 v244 l

theorem k5_pay28_lane (v249 : Vec F S1x1x16 .f32) (l : Fin 16) :
    k5_pay28 v249 (ix1 l) = v249 (ix3 (0 : Fin 1) (0 : Fin 1) l) := by
  unfold k5_pay28
  exact cast_16 v249 l

theorem k5_pay29_lane (v254 : Vec F S1x1x16 .f32) (l : Fin 16) :
    k5_pay29 v254 (ix1 l) = v254 (ix3 (0 : Fin 1) (0 : Fin 1) l) := by
  unfold k5_pay29
  exact cast_16 v254 l

theorem k5_pay30_lane (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (l : Fin 16) :
    k5_pay30 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = FloatOps.addf (FloatOps.addf (FloatOps.addf (FloatOps.addf (FloatOps.addf (v115 (ix1 l)) (v120 (ix1 l))) (FloatOps.addf (v125 (ix1 l)) (v130 (ix1 l)))) (FloatOps.addf (FloatOps.addf (v135 (ix1 l)) (v140 (ix1 l))) (FloatOps.addf (v145 (ix1 l)) (v150 (ix1 l))))) (FloatOps.addf (FloatOps.addf (FloatOps.addf (v155 (ix1 l)) (v160 (ix1 l))) (FloatOps.addf (v165 (ix1 l)) (v170 (ix1 l)))) (FloatOps.addf (FloatOps.addf (v175 (ix1 l)) (v180 (ix1 l))) (FloatOps.addf (v185 (ix1 l)) (v190 (ix1 l)))))) (FloatOps.addf (FloatOps.addf (FloatOps.addf (FloatOps.addf (v195 (ix1 l)) (v200 (ix1 l))) (FloatOps.addf (v205 (ix1 l)) (v210 (ix1 l)))) (FloatOps.addf (FloatOps.addf (v215 (ix1 l)) (v220 (ix1 l))) (FloatOps.addf (v225 (ix1 l)) (v230 (ix1 l))))) (FloatOps.addf (FloatOps.addf (FloatOps.addf (v235 (ix1 l)) (v240 (ix1 l))) (FloatOps.addf (v245 (ix1 l)) (v250 (ix1 l)))) (FloatOps.addf (FloatOps.addf (v255 (ix1 l)) (v259 (ix3 (0 : Fin 1) (0 : Fin 1) l))) (FloatOps.addf (v264 (ix3 (0 : Fin 1) (0 : Fin 1) l)) (v269 (ix3 (0 : Fin 1) (0 : Fin 1) l)))))) := by
  unfold k5_pay30
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (cast_16 v259 l)) (congrArg₂ FloatOps.addf (cast_16 v264 l) (cast_16 v269 l)))))

theorem k5_pay30_tree (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (w : Fin 32 → F .f32) (l : Fin 16)
    (h_v115 : v115 (ix1 l) = w 0)
    (h_v120 : v120 (ix1 l) = w 1)
    (h_v125 : v125 (ix1 l) = w 2)
    (h_v130 : v130 (ix1 l) = w 3)
    (h_v135 : v135 (ix1 l) = w 4)
    (h_v140 : v140 (ix1 l) = w 5)
    (h_v145 : v145 (ix1 l) = w 6)
    (h_v150 : v150 (ix1 l) = w 7)
    (h_v155 : v155 (ix1 l) = w 8)
    (h_v160 : v160 (ix1 l) = w 9)
    (h_v165 : v165 (ix1 l) = w 10)
    (h_v170 : v170 (ix1 l) = w 11)
    (h_v175 : v175 (ix1 l) = w 12)
    (h_v180 : v180 (ix1 l) = w 13)
    (h_v185 : v185 (ix1 l) = w 14)
    (h_v190 : v190 (ix1 l) = w 15)
    (h_v195 : v195 (ix1 l) = w 16)
    (h_v200 : v200 (ix1 l) = w 17)
    (h_v205 : v205 (ix1 l) = w 18)
    (h_v210 : v210 (ix1 l) = w 19)
    (h_v215 : v215 (ix1 l) = w 20)
    (h_v220 : v220 (ix1 l) = w 21)
    (h_v225 : v225 (ix1 l) = w 22)
    (h_v230 : v230 (ix1 l) = w 23)
    (h_v235 : v235 (ix1 l) = w 24)
    (h_v240 : v240 (ix1 l) = w 25)
    (h_v245 : v245 (ix1 l) = w 26)
    (h_v250 : v250 (ix1 l) = w 27)
    (h_v255 : v255 (ix1 l) = w 28)
    (h_v259 : v259 (ix3 (0 : Fin 1) (0 : Fin 1) l) = w 29)
    (h_v264 : v264 (ix3 (0 : Fin 1) (0 : Fin 1) l) = w 30)
    (h_v269 : v269 (ix3 (0 : Fin 1) (0 : Fin 1) l) = w 31) :
    k5_pay30 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = tree32 w := by
  unfold k5_pay30
  refine (cast_116 _ l).trans ?_
  exact congrArg₂ FloatOps.addf (congrArg₂ FloatOps.addf (congrArg₂ FloatOps.addf (congrArg₂ FloatOps.addf (congrArg₂ FloatOps.addf (h_v115) (h_v120)) (congrArg₂ FloatOps.addf (h_v125) (h_v130))) (congrArg₂ FloatOps.addf (congrArg₂ FloatOps.addf (h_v135) (h_v140)) (congrArg₂ FloatOps.addf (h_v145) (h_v150)))) (congrArg₂ FloatOps.addf (congrArg₂ FloatOps.addf (congrArg₂ FloatOps.addf (h_v155) (h_v160)) (congrArg₂ FloatOps.addf (h_v165) (h_v170))) (congrArg₂ FloatOps.addf (congrArg₂ FloatOps.addf (h_v175) (h_v180)) (congrArg₂ FloatOps.addf (h_v185) (h_v190))))) (congrArg₂ FloatOps.addf (congrArg₂ FloatOps.addf (congrArg₂ FloatOps.addf (congrArg₂ FloatOps.addf (h_v195) (h_v200)) (congrArg₂ FloatOps.addf (h_v205) (h_v210))) (congrArg₂ FloatOps.addf (congrArg₂ FloatOps.addf (h_v215) (h_v220)) (congrArg₂ FloatOps.addf (h_v225) (h_v230)))) (congrArg₂ FloatOps.addf (congrArg₂ FloatOps.addf (congrArg₂ FloatOps.addf (h_v235) (h_v240)) (congrArg₂ FloatOps.addf (h_v245) (h_v250))) (congrArg₂ FloatOps.addf (congrArg₂ FloatOps.addf (h_v255) ((cast_16 v259 l).trans h_v259)) (congrArg₂ FloatOps.addf ((cast_16 v264 l).trans h_v264) ((cast_16 v269 l).trans h_v269)))))

theorem k5_pay31_lane (v310 : Vec F S1x1x16 .f32) (l : Fin 16) :
    k5_pay31 v310 (ix1 l) = v310 (ix3 (0 : Fin 1) (0 : Fin 1) l) := by
  unfold k5_pay31
  exact cast_16 v310 l

theorem k5_pay32_lane (v315 : Vec F S1x1x16 .f32) (l : Fin 16) :
    k5_pay32 v315 (ix1 l) = v315 (ix3 (0 : Fin 1) (0 : Fin 1) l) := by
  unfold k5_pay32
  exact cast_16 v315 l

theorem k5_pay33_lane (v320 : Vec F S1x1x16 .f32) (l : Fin 16) :
    k5_pay33 v320 (ix1 l) = v320 (ix3 (0 : Fin 1) (0 : Fin 1) l) := by
  unfold k5_pay33
  exact cast_16 v320 l

theorem k5_pay34_lane (v325 : Vec F S1x1x16 .f32) (l : Fin 16) :
    k5_pay34 v325 (ix1 l) = v325 (ix3 (0 : Fin 1) (0 : Fin 1) l) := by
  unfold k5_pay34
  exact cast_16 v325 l

theorem k5_pay35_lane (v330 : Vec F S1x1x16 .f32) (l : Fin 16) :
    k5_pay35 v330 (ix1 l) = v330 (ix3 (0 : Fin 1) (0 : Fin 1) l) := by
  unfold k5_pay35
  exact cast_16 v330 l

theorem k5_pay36_lane (v335 : Vec F S1x1x16 .f32) (l : Fin 16) :
    k5_pay36 v335 (ix1 l) = v335 (ix3 (0 : Fin 1) (0 : Fin 1) l) := by
  unfold k5_pay36
  exact cast_16 v335 l

theorem k5_pay37_lane (v340 : Vec F S1x1x16 .f32) (l : Fin 16) :
    k5_pay37 v340 (ix1 l) = v340 (ix3 (0 : Fin 1) (0 : Fin 1) l) := by
  unfold k5_pay37
  exact cast_16 v340 l

theorem k5_pay38_lane (v345 : Vec F S1x1x16 .f32) (l : Fin 16) :
    k5_pay38 v345 (ix1 l) = v345 (ix3 (0 : Fin 1) (0 : Fin 1) l) := by
  unfold k5_pay38
  exact cast_16 v345 l

theorem k5_pay39_lane (v350 : Vec F S1x1x16 .f32) (l : Fin 16) :
    k5_pay39 v350 (ix1 l) = v350 (ix3 (0 : Fin 1) (0 : Fin 1) l) := by
  unfold k5_pay39
  exact cast_16 v350 l

theorem k5_pay40_lane (v355 : Vec F S1x1x16 .f32) (l : Fin 16) :
    k5_pay40 v355 (ix1 l) = v355 (ix3 (0 : Fin 1) (0 : Fin 1) l) := by
  unfold k5_pay40
  exact cast_16 v355 l

theorem k5_pay41_lane (v360 : Vec F S1x1x16 .f32) (l : Fin 16) :
    k5_pay41 v360 (ix1 l) = v360 (ix3 (0 : Fin 1) (0 : Fin 1) l) := by
  unfold k5_pay41
  exact cast_16 v360 l

theorem k5_pay42_lane (v365 : Vec F S1x1x16 .f32) (l : Fin 16) :
    k5_pay42 v365 (ix1 l) = v365 (ix3 (0 : Fin 1) (0 : Fin 1) l) := by
  unfold k5_pay42
  exact cast_16 v365 l

theorem k5_pay43_lane (v370 : Vec F S1x1x16 .f32) (l : Fin 16) :
    k5_pay43 v370 (ix1 l) = v370 (ix3 (0 : Fin 1) (0 : Fin 1) l) := by
  unfold k5_pay43
  exact cast_16 v370 l

theorem k5_pay44_lane (v375 : Vec F S1x1x16 .f32) (l : Fin 16) :
    k5_pay44 v375 (ix1 l) = v375 (ix3 (0 : Fin 1) (0 : Fin 1) l) := by
  unfold k5_pay44
  exact cast_16 v375 l

theorem k5_pay45_lane (v380 : Vec F S1x1x16 .f32) (l : Fin 16) :
    k5_pay45 v380 (ix1 l) = v380 (ix3 (0 : Fin 1) (0 : Fin 1) l) := by
  unfold k5_pay45
  exact cast_16 v380 l

theorem k5_pay46_lane (v385 : Vec F S1x1x16 .f32) (l : Fin 16) :
    k5_pay46 v385 (ix1 l) = v385 (ix3 (0 : Fin 1) (0 : Fin 1) l) := by
  unfold k5_pay46
  exact cast_16 v385 l

theorem k5_pay47_lane (v390 : Vec F S1x1x16 .f32) (l : Fin 16) :
    k5_pay47 v390 (ix1 l) = v390 (ix3 (0 : Fin 1) (0 : Fin 1) l) := by
  unfold k5_pay47
  exact cast_16 v390 l

theorem k5_pay48_lane (v395 : Vec F S1x1x16 .f32) (l : Fin 16) :
    k5_pay48 v395 (ix1 l) = v395 (ix3 (0 : Fin 1) (0 : Fin 1) l) := by
  unfold k5_pay48
  exact cast_16 v395 l

theorem k5_pay49_lane (v400 : Vec F S1x1x16 .f32) (l : Fin 16) :
    k5_pay49 v400 (ix1 l) = v400 (ix3 (0 : Fin 1) (0 : Fin 1) l) := by
  unfold k5_pay49
  exact cast_16 v400 l

theorem k5_pay50_lane (v405 : Vec F S1x1x16 .f32) (l : Fin 16) :
    k5_pay50 v405 (ix1 l) = v405 (ix3 (0 : Fin 1) (0 : Fin 1) l) := by
  unfold k5_pay50
  exact cast_16 v405 l

theorem k5_pay51_lane (v410 : Vec F S1x1x16 .f32) (l : Fin 16) :
    k5_pay51 v410 (ix1 l) = v410 (ix3 (0 : Fin 1) (0 : Fin 1) l) := by
  unfold k5_pay51
  exact cast_16 v410 l

theorem k5_pay52_lane (v415 : Vec F S1x1x16 .f32) (l : Fin 16) :
    k5_pay52 v415 (ix1 l) = v415 (ix3 (0 : Fin 1) (0 : Fin 1) l) := by
  unfold k5_pay52
  exact cast_16 v415 l

theorem k5_pay53_lane (v420 : Vec F S1x1x16 .f32) (l : Fin 16) :
    k5_pay53 v420 (ix1 l) = v420 (ix3 (0 : Fin 1) (0 : Fin 1) l) := by
  unfold k5_pay53
  exact cast_16 v420 l

theorem k5_pay54_lane (v425 : Vec F S1x1x16 .f32) (l : Fin 16) :
    k5_pay54 v425 (ix1 l) = v425 (ix3 (0 : Fin 1) (0 : Fin 1) l) := by
  unfold k5_pay54
  exact cast_16 v425 l

theorem k5_pay55_lane (v430 : Vec F S1x1x16 .f32) (l : Fin 16) :
    k5_pay55 v430 (ix1 l) = v430 (ix3 (0 : Fin 1) (0 : Fin 1) l) := by
  unfold k5_pay55
  exact cast_16 v430 l

theorem k5_pay56_lane (v435 : Vec F S1x1x16 .f32) (l : Fin 16) :
    k5_pay56 v435 (ix1 l) = v435 (ix3 (0 : Fin 1) (0 : Fin 1) l) := by
  unfold k5_pay56
  exact cast_16 v435 l

theorem k5_pay57_lane (v440 : Vec F S1x1x16 .f32) (l : Fin 16) :
    k5_pay57 v440 (ix1 l) = v440 (ix3 (0 : Fin 1) (0 : Fin 1) l) := by
  unfold k5_pay57
  exact cast_16 v440 l

theorem k5_pay58_lane (v445 : Vec F S1x1x16 .f32) (l : Fin 16) :
    k5_pay58 v445 (ix1 l) = v445 (ix3 (0 : Fin 1) (0 : Fin 1) l) := by
  unfold k5_pay58
  exact cast_16 v445 l

theorem k5_pay59_lane (v450 : Vec F S1x1x16 .f32) (l : Fin 16) :
    k5_pay59 v450 (ix1 l) = v450 (ix3 (0 : Fin 1) (0 : Fin 1) l) := by
  unfold k5_pay59
  exact cast_16 v450 l

theorem k5_pay60_lane (v455 : Vec F S1x1x16 .f32) (l : Fin 16) :
    k5_pay60 v455 (ix1 l) = v455 (ix3 (0 : Fin 1) (0 : Fin 1) l) := by
  unfold k5_pay60
  exact cast_16 v455 l

theorem k5_pay61_lane (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (l : Fin 16) :
    k5_pay61 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = FloatOps.addf (FloatOps.addf (FloatOps.addf (FloatOps.addf (FloatOps.addf (v311 (ix1 l)) (v316 (ix1 l))) (FloatOps.addf (v321 (ix1 l)) (v326 (ix1 l)))) (FloatOps.addf (FloatOps.addf (v331 (ix1 l)) (v336 (ix1 l))) (FloatOps.addf (v341 (ix1 l)) (v346 (ix1 l))))) (FloatOps.addf (FloatOps.addf (FloatOps.addf (v351 (ix1 l)) (v356 (ix1 l))) (FloatOps.addf (v361 (ix1 l)) (v366 (ix1 l)))) (FloatOps.addf (FloatOps.addf (v371 (ix1 l)) (v376 (ix1 l))) (FloatOps.addf (v381 (ix1 l)) (v386 (ix1 l)))))) (FloatOps.addf (FloatOps.addf (FloatOps.addf (FloatOps.addf (v391 (ix1 l)) (v396 (ix1 l))) (FloatOps.addf (v401 (ix1 l)) (v406 (ix1 l)))) (FloatOps.addf (FloatOps.addf (v411 (ix1 l)) (v416 (ix1 l))) (FloatOps.addf (v421 (ix1 l)) (v426 (ix1 l))))) (FloatOps.addf (FloatOps.addf (FloatOps.addf (v431 (ix1 l)) (v436 (ix1 l))) (FloatOps.addf (v441 (ix1 l)) (v446 (ix1 l)))) (FloatOps.addf (FloatOps.addf (v451 (ix1 l)) (v456 (ix1 l))) (FloatOps.addf (v460 (ix3 (0 : Fin 1) (0 : Fin 1) l)) (v465 (ix3 (0 : Fin 1) (0 : Fin 1) l)))))) := by
  unfold k5_pay61
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v460 l) (cast_16 v465 l)))))

theorem k5_pay61_tree (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (w : Fin 32 → F .f32) (l : Fin 16)
    (h_v311 : v311 (ix1 l) = w 0)
    (h_v316 : v316 (ix1 l) = w 1)
    (h_v321 : v321 (ix1 l) = w 2)
    (h_v326 : v326 (ix1 l) = w 3)
    (h_v331 : v331 (ix1 l) = w 4)
    (h_v336 : v336 (ix1 l) = w 5)
    (h_v341 : v341 (ix1 l) = w 6)
    (h_v346 : v346 (ix1 l) = w 7)
    (h_v351 : v351 (ix1 l) = w 8)
    (h_v356 : v356 (ix1 l) = w 9)
    (h_v361 : v361 (ix1 l) = w 10)
    (h_v366 : v366 (ix1 l) = w 11)
    (h_v371 : v371 (ix1 l) = w 12)
    (h_v376 : v376 (ix1 l) = w 13)
    (h_v381 : v381 (ix1 l) = w 14)
    (h_v386 : v386 (ix1 l) = w 15)
    (h_v391 : v391 (ix1 l) = w 16)
    (h_v396 : v396 (ix1 l) = w 17)
    (h_v401 : v401 (ix1 l) = w 18)
    (h_v406 : v406 (ix1 l) = w 19)
    (h_v411 : v411 (ix1 l) = w 20)
    (h_v416 : v416 (ix1 l) = w 21)
    (h_v421 : v421 (ix1 l) = w 22)
    (h_v426 : v426 (ix1 l) = w 23)
    (h_v431 : v431 (ix1 l) = w 24)
    (h_v436 : v436 (ix1 l) = w 25)
    (h_v441 : v441 (ix1 l) = w 26)
    (h_v446 : v446 (ix1 l) = w 27)
    (h_v451 : v451 (ix1 l) = w 28)
    (h_v456 : v456 (ix1 l) = w 29)
    (h_v460 : v460 (ix3 (0 : Fin 1) (0 : Fin 1) l) = w 30)
    (h_v465 : v465 (ix3 (0 : Fin 1) (0 : Fin 1) l) = w 31) :
    k5_pay61 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = tree32 w := by
  unfold k5_pay61
  refine (cast_116 _ l).trans ?_
  exact congrArg₂ FloatOps.addf (congrArg₂ FloatOps.addf (congrArg₂ FloatOps.addf (congrArg₂ FloatOps.addf (congrArg₂ FloatOps.addf (h_v311) (h_v316)) (congrArg₂ FloatOps.addf (h_v321) (h_v326))) (congrArg₂ FloatOps.addf (congrArg₂ FloatOps.addf (h_v331) (h_v336)) (congrArg₂ FloatOps.addf (h_v341) (h_v346)))) (congrArg₂ FloatOps.addf (congrArg₂ FloatOps.addf (congrArg₂ FloatOps.addf (h_v351) (h_v356)) (congrArg₂ FloatOps.addf (h_v361) (h_v366))) (congrArg₂ FloatOps.addf (congrArg₂ FloatOps.addf (h_v371) (h_v376)) (congrArg₂ FloatOps.addf (h_v381) (h_v386))))) (congrArg₂ FloatOps.addf (congrArg₂ FloatOps.addf (congrArg₂ FloatOps.addf (congrArg₂ FloatOps.addf (h_v391) (h_v396)) (congrArg₂ FloatOps.addf (h_v401) (h_v406))) (congrArg₂ FloatOps.addf (congrArg₂ FloatOps.addf (h_v411) (h_v416)) (congrArg₂ FloatOps.addf (h_v421) (h_v426)))) (congrArg₂ FloatOps.addf (congrArg₂ FloatOps.addf (congrArg₂ FloatOps.addf (h_v431) (h_v436)) (congrArg₂ FloatOps.addf (h_v441) (h_v446))) (congrArg₂ FloatOps.addf (congrArg₂ FloatOps.addf (h_v451) (h_v456)) (congrArg₂ FloatOps.addf ((cast_16 v460 l).trans h_v460) ((cast_16 v465 l).trans h_v465)))))

theorem k5_pay62_lane (v506 : Vec F S1x1x16 .f32) (l : Fin 16) :
    k5_pay62 v506 (ix1 l) = v506 (ix3 (0 : Fin 1) (0 : Fin 1) l) := by
  unfold k5_pay62
  exact cast_16 v506 l

theorem k5_pay63_lane (v511 : Vec F S1x1x16 .f32) (l : Fin 16) :
    k5_pay63 v511 (ix1 l) = v511 (ix3 (0 : Fin 1) (0 : Fin 1) l) := by
  unfold k5_pay63
  exact cast_16 v511 l

theorem k5_pay64_lane (v516 : Vec F S1x1x16 .f32) (l : Fin 16) :
    k5_pay64 v516 (ix1 l) = v516 (ix3 (0 : Fin 1) (0 : Fin 1) l) := by
  unfold k5_pay64
  exact cast_16 v516 l

theorem k5_pay65_lane (v521 : Vec F S1x1x16 .f32) (l : Fin 16) :
    k5_pay65 v521 (ix1 l) = v521 (ix3 (0 : Fin 1) (0 : Fin 1) l) := by
  unfold k5_pay65
  exact cast_16 v521 l

theorem k5_pay66_lane (v526 : Vec F S1x1x16 .f32) (l : Fin 16) :
    k5_pay66 v526 (ix1 l) = v526 (ix3 (0 : Fin 1) (0 : Fin 1) l) := by
  unfold k5_pay66
  exact cast_16 v526 l

theorem k5_pay67_lane (v531 : Vec F S1x1x16 .f32) (l : Fin 16) :
    k5_pay67 v531 (ix1 l) = v531 (ix3 (0 : Fin 1) (0 : Fin 1) l) := by
  unfold k5_pay67
  exact cast_16 v531 l

theorem k5_pay68_lane (v536 : Vec F S1x1x16 .f32) (l : Fin 16) :
    k5_pay68 v536 (ix1 l) = v536 (ix3 (0 : Fin 1) (0 : Fin 1) l) := by
  unfold k5_pay68
  exact cast_16 v536 l

theorem k5_pay69_lane (v541 : Vec F S1x1x16 .f32) (l : Fin 16) :
    k5_pay69 v541 (ix1 l) = v541 (ix3 (0 : Fin 1) (0 : Fin 1) l) := by
  unfold k5_pay69
  exact cast_16 v541 l

theorem k5_pay70_lane (v546 : Vec F S1x1x16 .f32) (l : Fin 16) :
    k5_pay70 v546 (ix1 l) = v546 (ix3 (0 : Fin 1) (0 : Fin 1) l) := by
  unfold k5_pay70
  exact cast_16 v546 l

theorem k5_pay71_lane (v551 : Vec F S1x1x16 .f32) (l : Fin 16) :
    k5_pay71 v551 (ix1 l) = v551 (ix3 (0 : Fin 1) (0 : Fin 1) l) := by
  unfold k5_pay71
  exact cast_16 v551 l

theorem k5_pay72_lane (v556 : Vec F S1x1x16 .f32) (l : Fin 16) :
    k5_pay72 v556 (ix1 l) = v556 (ix3 (0 : Fin 1) (0 : Fin 1) l) := by
  unfold k5_pay72
  exact cast_16 v556 l

theorem k5_pay73_lane (v561 : Vec F S1x1x16 .f32) (l : Fin 16) :
    k5_pay73 v561 (ix1 l) = v561 (ix3 (0 : Fin 1) (0 : Fin 1) l) := by
  unfold k5_pay73
  exact cast_16 v561 l

theorem k5_pay74_lane (v566 : Vec F S1x1x16 .f32) (l : Fin 16) :
    k5_pay74 v566 (ix1 l) = v566 (ix3 (0 : Fin 1) (0 : Fin 1) l) := by
  unfold k5_pay74
  exact cast_16 v566 l

theorem k5_pay75_lane (v571 : Vec F S1x1x16 .f32) (l : Fin 16) :
    k5_pay75 v571 (ix1 l) = v571 (ix3 (0 : Fin 1) (0 : Fin 1) l) := by
  unfold k5_pay75
  exact cast_16 v571 l

theorem k5_pay76_lane (v576 : Vec F S1x1x16 .f32) (l : Fin 16) :
    k5_pay76 v576 (ix1 l) = v576 (ix3 (0 : Fin 1) (0 : Fin 1) l) := by
  unfold k5_pay76
  exact cast_16 v576 l

theorem k5_pay77_lane (v581 : Vec F S1x1x16 .f32) (l : Fin 16) :
    k5_pay77 v581 (ix1 l) = v581 (ix3 (0 : Fin 1) (0 : Fin 1) l) := by
  unfold k5_pay77
  exact cast_16 v581 l

theorem k5_pay78_lane (v586 : Vec F S1x1x16 .f32) (l : Fin 16) :
    k5_pay78 v586 (ix1 l) = v586 (ix3 (0 : Fin 1) (0 : Fin 1) l) := by
  unfold k5_pay78
  exact cast_16 v586 l

theorem k5_pay79_lane (v591 : Vec F S1x1x16 .f32) (l : Fin 16) :
    k5_pay79 v591 (ix1 l) = v591 (ix3 (0 : Fin 1) (0 : Fin 1) l) := by
  unfold k5_pay79
  exact cast_16 v591 l

theorem k5_pay80_lane (v596 : Vec F S1x1x16 .f32) (l : Fin 16) :
    k5_pay80 v596 (ix1 l) = v596 (ix3 (0 : Fin 1) (0 : Fin 1) l) := by
  unfold k5_pay80
  exact cast_16 v596 l

theorem k5_pay81_lane (v601 : Vec F S1x1x16 .f32) (l : Fin 16) :
    k5_pay81 v601 (ix1 l) = v601 (ix3 (0 : Fin 1) (0 : Fin 1) l) := by
  unfold k5_pay81
  exact cast_16 v601 l

theorem k5_pay82_lane (v606 : Vec F S1x1x16 .f32) (l : Fin 16) :
    k5_pay82 v606 (ix1 l) = v606 (ix3 (0 : Fin 1) (0 : Fin 1) l) := by
  unfold k5_pay82
  exact cast_16 v606 l

theorem k5_pay83_lane (v611 : Vec F S1x1x16 .f32) (l : Fin 16) :
    k5_pay83 v611 (ix1 l) = v611 (ix3 (0 : Fin 1) (0 : Fin 1) l) := by
  unfold k5_pay83
  exact cast_16 v611 l

theorem k5_pay84_lane (v616 : Vec F S1x1x16 .f32) (l : Fin 16) :
    k5_pay84 v616 (ix1 l) = v616 (ix3 (0 : Fin 1) (0 : Fin 1) l) := by
  unfold k5_pay84
  exact cast_16 v616 l

theorem k5_pay85_lane (v621 : Vec F S1x1x16 .f32) (l : Fin 16) :
    k5_pay85 v621 (ix1 l) = v621 (ix3 (0 : Fin 1) (0 : Fin 1) l) := by
  unfold k5_pay85
  exact cast_16 v621 l

theorem k5_pay86_lane (v626 : Vec F S1x1x16 .f32) (l : Fin 16) :
    k5_pay86 v626 (ix1 l) = v626 (ix3 (0 : Fin 1) (0 : Fin 1) l) := by
  unfold k5_pay86
  exact cast_16 v626 l

theorem k5_pay87_lane (v631 : Vec F S1x1x16 .f32) (l : Fin 16) :
    k5_pay87 v631 (ix1 l) = v631 (ix3 (0 : Fin 1) (0 : Fin 1) l) := by
  unfold k5_pay87
  exact cast_16 v631 l

theorem k5_pay88_lane (v636 : Vec F S1x1x16 .f32) (l : Fin 16) :
    k5_pay88 v636 (ix1 l) = v636 (ix3 (0 : Fin 1) (0 : Fin 1) l) := by
  unfold k5_pay88
  exact cast_16 v636 l

theorem k5_pay89_lane (v641 : Vec F S1x1x16 .f32) (l : Fin 16) :
    k5_pay89 v641 (ix1 l) = v641 (ix3 (0 : Fin 1) (0 : Fin 1) l) := by
  unfold k5_pay89
  exact cast_16 v641 l

theorem k5_pay90_lane (v646 : Vec F S1x1x16 .f32) (l : Fin 16) :
    k5_pay90 v646 (ix1 l) = v646 (ix3 (0 : Fin 1) (0 : Fin 1) l) := by
  unfold k5_pay90
  exact cast_16 v646 l

theorem k5_pay91_lane (v651 : Vec F S1x1x16 .f32) (l : Fin 16) :
    k5_pay91 v651 (ix1 l) = v651 (ix3 (0 : Fin 1) (0 : Fin 1) l) := by
  unfold k5_pay91
  exact cast_16 v651 l

theorem k5_pay92_lane (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (l : Fin 16) :
    k5_pay92 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = FloatOps.addf (FloatOps.addf (FloatOps.addf (FloatOps.addf (FloatOps.addf (v507 (ix1 l)) (v512 (ix1 l))) (FloatOps.addf (v517 (ix1 l)) (v522 (ix1 l)))) (FloatOps.addf (FloatOps.addf (v527 (ix1 l)) (v532 (ix1 l))) (FloatOps.addf (v537 (ix1 l)) (v542 (ix1 l))))) (FloatOps.addf (FloatOps.addf (FloatOps.addf (v547 (ix1 l)) (v552 (ix1 l))) (FloatOps.addf (v557 (ix1 l)) (v562 (ix1 l)))) (FloatOps.addf (FloatOps.addf (v567 (ix1 l)) (v572 (ix1 l))) (FloatOps.addf (v577 (ix1 l)) (v582 (ix1 l)))))) (FloatOps.addf (FloatOps.addf (FloatOps.addf (FloatOps.addf (v587 (ix1 l)) (v592 (ix1 l))) (FloatOps.addf (v597 (ix1 l)) (v602 (ix1 l)))) (FloatOps.addf (FloatOps.addf (v607 (ix1 l)) (v612 (ix1 l))) (FloatOps.addf (v617 (ix1 l)) (v622 (ix1 l))))) (FloatOps.addf (FloatOps.addf (FloatOps.addf (v627 (ix1 l)) (v632 (ix1 l))) (FloatOps.addf (v637 (ix1 l)) (v642 (ix1 l)))) (FloatOps.addf (FloatOps.addf (v647 (ix1 l)) (v652 (ix1 l))) (FloatOps.addf (v656 (ix3 (0 : Fin 1) (0 : Fin 1) l)) (v661 (ix3 (0 : Fin 1) (0 : Fin 1) l)))))) := by
  unfold k5_pay92
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v656 l) (cast_16 v661 l)))))

theorem k5_pay92_tree (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (w : Fin 32 → F .f32) (l : Fin 16)
    (h_v507 : v507 (ix1 l) = w 0)
    (h_v512 : v512 (ix1 l) = w 1)
    (h_v517 : v517 (ix1 l) = w 2)
    (h_v522 : v522 (ix1 l) = w 3)
    (h_v527 : v527 (ix1 l) = w 4)
    (h_v532 : v532 (ix1 l) = w 5)
    (h_v537 : v537 (ix1 l) = w 6)
    (h_v542 : v542 (ix1 l) = w 7)
    (h_v547 : v547 (ix1 l) = w 8)
    (h_v552 : v552 (ix1 l) = w 9)
    (h_v557 : v557 (ix1 l) = w 10)
    (h_v562 : v562 (ix1 l) = w 11)
    (h_v567 : v567 (ix1 l) = w 12)
    (h_v572 : v572 (ix1 l) = w 13)
    (h_v577 : v577 (ix1 l) = w 14)
    (h_v582 : v582 (ix1 l) = w 15)
    (h_v587 : v587 (ix1 l) = w 16)
    (h_v592 : v592 (ix1 l) = w 17)
    (h_v597 : v597 (ix1 l) = w 18)
    (h_v602 : v602 (ix1 l) = w 19)
    (h_v607 : v607 (ix1 l) = w 20)
    (h_v612 : v612 (ix1 l) = w 21)
    (h_v617 : v617 (ix1 l) = w 22)
    (h_v622 : v622 (ix1 l) = w 23)
    (h_v627 : v627 (ix1 l) = w 24)
    (h_v632 : v632 (ix1 l) = w 25)
    (h_v637 : v637 (ix1 l) = w 26)
    (h_v642 : v642 (ix1 l) = w 27)
    (h_v647 : v647 (ix1 l) = w 28)
    (h_v652 : v652 (ix1 l) = w 29)
    (h_v656 : v656 (ix3 (0 : Fin 1) (0 : Fin 1) l) = w 30)
    (h_v661 : v661 (ix3 (0 : Fin 1) (0 : Fin 1) l) = w 31) :
    k5_pay92 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = tree32 w := by
  unfold k5_pay92
  refine (cast_116 _ l).trans ?_
  exact congrArg₂ FloatOps.addf (congrArg₂ FloatOps.addf (congrArg₂ FloatOps.addf (congrArg₂ FloatOps.addf (congrArg₂ FloatOps.addf (h_v507) (h_v512)) (congrArg₂ FloatOps.addf (h_v517) (h_v522))) (congrArg₂ FloatOps.addf (congrArg₂ FloatOps.addf (h_v527) (h_v532)) (congrArg₂ FloatOps.addf (h_v537) (h_v542)))) (congrArg₂ FloatOps.addf (congrArg₂ FloatOps.addf (congrArg₂ FloatOps.addf (h_v547) (h_v552)) (congrArg₂ FloatOps.addf (h_v557) (h_v562))) (congrArg₂ FloatOps.addf (congrArg₂ FloatOps.addf (h_v567) (h_v572)) (congrArg₂ FloatOps.addf (h_v577) (h_v582))))) (congrArg₂ FloatOps.addf (congrArg₂ FloatOps.addf (congrArg₂ FloatOps.addf (congrArg₂ FloatOps.addf (h_v587) (h_v592)) (congrArg₂ FloatOps.addf (h_v597) (h_v602))) (congrArg₂ FloatOps.addf (congrArg₂ FloatOps.addf (h_v607) (h_v612)) (congrArg₂ FloatOps.addf (h_v617) (h_v622)))) (congrArg₂ FloatOps.addf (congrArg₂ FloatOps.addf (congrArg₂ FloatOps.addf (h_v627) (h_v632)) (congrArg₂ FloatOps.addf (h_v637) (h_v642))) (congrArg₂ FloatOps.addf (congrArg₂ FloatOps.addf (h_v647) (h_v652)) (congrArg₂ FloatOps.addf ((cast_16 v656 l).trans h_v656) ((cast_16 v661 l).trans h_v661)))))

theorem k5_pay93_lane (v702 : Vec F S1x1x16 .f32) (l : Fin 16) :
    k5_pay93 v702 (ix1 l) = v702 (ix3 (0 : Fin 1) (0 : Fin 1) l) := by
  unfold k5_pay93
  exact cast_16 v702 l

theorem k5_pay94_lane (v707 : Vec F S1x1x16 .f32) (l : Fin 16) :
    k5_pay94 v707 (ix1 l) = v707 (ix3 (0 : Fin 1) (0 : Fin 1) l) := by
  unfold k5_pay94
  exact cast_16 v707 l

theorem k5_pay95_lane (v712 : Vec F S1x1x16 .f32) (l : Fin 16) :
    k5_pay95 v712 (ix1 l) = v712 (ix3 (0 : Fin 1) (0 : Fin 1) l) := by
  unfold k5_pay95
  exact cast_16 v712 l

theorem k5_pay96_lane (v717 : Vec F S1x1x16 .f32) (l : Fin 16) :
    k5_pay96 v717 (ix1 l) = v717 (ix3 (0 : Fin 1) (0 : Fin 1) l) := by
  unfold k5_pay96
  exact cast_16 v717 l

theorem k5_pay97_lane (v722 : Vec F S1x1x16 .f32) (l : Fin 16) :
    k5_pay97 v722 (ix1 l) = v722 (ix3 (0 : Fin 1) (0 : Fin 1) l) := by
  unfold k5_pay97
  exact cast_16 v722 l

theorem k5_pay98_lane (v727 : Vec F S1x1x16 .f32) (l : Fin 16) :
    k5_pay98 v727 (ix1 l) = v727 (ix3 (0 : Fin 1) (0 : Fin 1) l) := by
  unfold k5_pay98
  exact cast_16 v727 l

theorem k5_pay99_lane (v732 : Vec F S1x1x16 .f32) (l : Fin 16) :
    k5_pay99 v732 (ix1 l) = v732 (ix3 (0 : Fin 1) (0 : Fin 1) l) := by
  unfold k5_pay99
  exact cast_16 v732 l

theorem k5_pay100_lane (v737 : Vec F S1x1x16 .f32) (l : Fin 16) :
    k5_pay100 v737 (ix1 l) = v737 (ix3 (0 : Fin 1) (0 : Fin 1) l) := by
  unfold k5_pay100
  exact cast_16 v737 l

theorem k5_pay101_lane (v742 : Vec F S1x1x16 .f32) (l : Fin 16) :
    k5_pay101 v742 (ix1 l) = v742 (ix3 (0 : Fin 1) (0 : Fin 1) l) := by
  unfold k5_pay101
  exact cast_16 v742 l

theorem k5_pay102_lane (v747 : Vec F S1x1x16 .f32) (l : Fin 16) :
    k5_pay102 v747 (ix1 l) = v747 (ix3 (0 : Fin 1) (0 : Fin 1) l) := by
  unfold k5_pay102
  exact cast_16 v747 l

theorem k5_pay103_lane (v752 : Vec F S1x1x16 .f32) (l : Fin 16) :
    k5_pay103 v752 (ix1 l) = v752 (ix3 (0 : Fin 1) (0 : Fin 1) l) := by
  unfold k5_pay103
  exact cast_16 v752 l

theorem k5_pay104_lane (v757 : Vec F S1x1x16 .f32) (l : Fin 16) :
    k5_pay104 v757 (ix1 l) = v757 (ix3 (0 : Fin 1) (0 : Fin 1) l) := by
  unfold k5_pay104
  exact cast_16 v757 l

theorem k5_pay105_lane (v762 : Vec F S1x1x16 .f32) (l : Fin 16) :
    k5_pay105 v762 (ix1 l) = v762 (ix3 (0 : Fin 1) (0 : Fin 1) l) := by
  unfold k5_pay105
  exact cast_16 v762 l

theorem k5_pay106_lane (v767 : Vec F S1x1x16 .f32) (l : Fin 16) :
    k5_pay106 v767 (ix1 l) = v767 (ix3 (0 : Fin 1) (0 : Fin 1) l) := by
  unfold k5_pay106
  exact cast_16 v767 l

theorem k5_pay107_lane (v772 : Vec F S1x1x16 .f32) (l : Fin 16) :
    k5_pay107 v772 (ix1 l) = v772 (ix3 (0 : Fin 1) (0 : Fin 1) l) := by
  unfold k5_pay107
  exact cast_16 v772 l

theorem k5_pay108_lane (v777 : Vec F S1x1x16 .f32) (l : Fin 16) :
    k5_pay108 v777 (ix1 l) = v777 (ix3 (0 : Fin 1) (0 : Fin 1) l) := by
  unfold k5_pay108
  exact cast_16 v777 l

theorem k5_pay109_lane (v782 : Vec F S1x1x16 .f32) (l : Fin 16) :
    k5_pay109 v782 (ix1 l) = v782 (ix3 (0 : Fin 1) (0 : Fin 1) l) := by
  unfold k5_pay109
  exact cast_16 v782 l

theorem k5_pay110_lane (v787 : Vec F S1x1x16 .f32) (l : Fin 16) :
    k5_pay110 v787 (ix1 l) = v787 (ix3 (0 : Fin 1) (0 : Fin 1) l) := by
  unfold k5_pay110
  exact cast_16 v787 l

theorem k5_pay111_lane (v792 : Vec F S1x1x16 .f32) (l : Fin 16) :
    k5_pay111 v792 (ix1 l) = v792 (ix3 (0 : Fin 1) (0 : Fin 1) l) := by
  unfold k5_pay111
  exact cast_16 v792 l

theorem k5_pay112_lane (v797 : Vec F S1x1x16 .f32) (l : Fin 16) :
    k5_pay112 v797 (ix1 l) = v797 (ix3 (0 : Fin 1) (0 : Fin 1) l) := by
  unfold k5_pay112
  exact cast_16 v797 l

theorem k5_pay113_lane (v802 : Vec F S1x1x16 .f32) (l : Fin 16) :
    k5_pay113 v802 (ix1 l) = v802 (ix3 (0 : Fin 1) (0 : Fin 1) l) := by
  unfold k5_pay113
  exact cast_16 v802 l

theorem k5_pay114_lane (v807 : Vec F S1x1x16 .f32) (l : Fin 16) :
    k5_pay114 v807 (ix1 l) = v807 (ix3 (0 : Fin 1) (0 : Fin 1) l) := by
  unfold k5_pay114
  exact cast_16 v807 l

theorem k5_pay115_lane (v812 : Vec F S1x1x16 .f32) (l : Fin 16) :
    k5_pay115 v812 (ix1 l) = v812 (ix3 (0 : Fin 1) (0 : Fin 1) l) := by
  unfold k5_pay115
  exact cast_16 v812 l

theorem k5_pay116_lane (v817 : Vec F S1x1x16 .f32) (l : Fin 16) :
    k5_pay116 v817 (ix1 l) = v817 (ix3 (0 : Fin 1) (0 : Fin 1) l) := by
  unfold k5_pay116
  exact cast_16 v817 l

theorem k5_pay117_lane (v822 : Vec F S1x1x16 .f32) (l : Fin 16) :
    k5_pay117 v822 (ix1 l) = v822 (ix3 (0 : Fin 1) (0 : Fin 1) l) := by
  unfold k5_pay117
  exact cast_16 v822 l

theorem k5_pay118_lane (v827 : Vec F S1x1x16 .f32) (l : Fin 16) :
    k5_pay118 v827 (ix1 l) = v827 (ix3 (0 : Fin 1) (0 : Fin 1) l) := by
  unfold k5_pay118
  exact cast_16 v827 l

theorem k5_pay119_lane (v832 : Vec F S1x1x16 .f32) (l : Fin 16) :
    k5_pay119 v832 (ix1 l) = v832 (ix3 (0 : Fin 1) (0 : Fin 1) l) := by
  unfold k5_pay119
  exact cast_16 v832 l

theorem k5_pay120_lane (v837 : Vec F S1x1x16 .f32) (l : Fin 16) :
    k5_pay120 v837 (ix1 l) = v837 (ix3 (0 : Fin 1) (0 : Fin 1) l) := by
  unfold k5_pay120
  exact cast_16 v837 l

theorem k5_pay121_lane (v842 : Vec F S1x1x16 .f32) (l : Fin 16) :
    k5_pay121 v842 (ix1 l) = v842 (ix3 (0 : Fin 1) (0 : Fin 1) l) := by
  unfold k5_pay121
  exact cast_16 v842 l

theorem k5_pay122_lane (v847 : Vec F S1x1x16 .f32) (l : Fin 16) :
    k5_pay122 v847 (ix1 l) = v847 (ix3 (0 : Fin 1) (0 : Fin 1) l) := by
  unfold k5_pay122
  exact cast_16 v847 l

theorem k5_pay123_lane (v852 : Vec F S1x1x16 .f32) (l : Fin 16) :
    k5_pay123 v852 (ix1 l) = v852 (ix3 (0 : Fin 1) (0 : Fin 1) l) := by
  unfold k5_pay123
  exact cast_16 v852 l

theorem k5_pay124_lane (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (l : Fin 16) :
    k5_pay124 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = FloatOps.addf (FloatOps.addf (FloatOps.addf (FloatOps.addf (FloatOps.addf (v703 (ix1 l)) (v708 (ix1 l))) (FloatOps.addf (v713 (ix1 l)) (v718 (ix1 l)))) (FloatOps.addf (FloatOps.addf (v723 (ix1 l)) (v728 (ix1 l))) (FloatOps.addf (v733 (ix1 l)) (v738 (ix1 l))))) (FloatOps.addf (FloatOps.addf (FloatOps.addf (v743 (ix1 l)) (v748 (ix1 l))) (FloatOps.addf (v753 (ix1 l)) (v758 (ix1 l)))) (FloatOps.addf (FloatOps.addf (v763 (ix1 l)) (v768 (ix1 l))) (FloatOps.addf (v773 (ix1 l)) (v778 (ix1 l)))))) (FloatOps.addf (FloatOps.addf (FloatOps.addf (FloatOps.addf (v783 (ix1 l)) (v788 (ix1 l))) (FloatOps.addf (v793 (ix1 l)) (v798 (ix1 l)))) (FloatOps.addf (FloatOps.addf (v803 (ix1 l)) (v808 (ix1 l))) (FloatOps.addf (v813 (ix1 l)) (v818 (ix1 l))))) (FloatOps.addf (FloatOps.addf (FloatOps.addf (v823 (ix1 l)) (v828 (ix1 l))) (FloatOps.addf (v833 (ix1 l)) (v838 (ix1 l)))) (FloatOps.addf (FloatOps.addf (v843 (ix1 l)) (v848 (ix1 l))) (FloatOps.addf (v853 (ix1 l)) (v857 (ix3 (0 : Fin 1) (0 : Fin 1) l)))))) := by
  unfold k5_pay124
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (cast_16 v857 l)))))

theorem k5_pay124_tree (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (w : Fin 32 → F .f32) (l : Fin 16)
    (h_v703 : v703 (ix1 l) = w 0)
    (h_v708 : v708 (ix1 l) = w 1)
    (h_v713 : v713 (ix1 l) = w 2)
    (h_v718 : v718 (ix1 l) = w 3)
    (h_v723 : v723 (ix1 l) = w 4)
    (h_v728 : v728 (ix1 l) = w 5)
    (h_v733 : v733 (ix1 l) = w 6)
    (h_v738 : v738 (ix1 l) = w 7)
    (h_v743 : v743 (ix1 l) = w 8)
    (h_v748 : v748 (ix1 l) = w 9)
    (h_v753 : v753 (ix1 l) = w 10)
    (h_v758 : v758 (ix1 l) = w 11)
    (h_v763 : v763 (ix1 l) = w 12)
    (h_v768 : v768 (ix1 l) = w 13)
    (h_v773 : v773 (ix1 l) = w 14)
    (h_v778 : v778 (ix1 l) = w 15)
    (h_v783 : v783 (ix1 l) = w 16)
    (h_v788 : v788 (ix1 l) = w 17)
    (h_v793 : v793 (ix1 l) = w 18)
    (h_v798 : v798 (ix1 l) = w 19)
    (h_v803 : v803 (ix1 l) = w 20)
    (h_v808 : v808 (ix1 l) = w 21)
    (h_v813 : v813 (ix1 l) = w 22)
    (h_v818 : v818 (ix1 l) = w 23)
    (h_v823 : v823 (ix1 l) = w 24)
    (h_v828 : v828 (ix1 l) = w 25)
    (h_v833 : v833 (ix1 l) = w 26)
    (h_v838 : v838 (ix1 l) = w 27)
    (h_v843 : v843 (ix1 l) = w 28)
    (h_v848 : v848 (ix1 l) = w 29)
    (h_v853 : v853 (ix1 l) = w 30)
    (h_v857 : v857 (ix3 (0 : Fin 1) (0 : Fin 1) l) = w 31) :
    k5_pay124 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = tree32 w := by
  unfold k5_pay124
  refine (cast_116 _ l).trans ?_
  exact congrArg₂ FloatOps.addf (congrArg₂ FloatOps.addf (congrArg₂ FloatOps.addf (congrArg₂ FloatOps.addf (congrArg₂ FloatOps.addf (h_v703) (h_v708)) (congrArg₂ FloatOps.addf (h_v713) (h_v718))) (congrArg₂ FloatOps.addf (congrArg₂ FloatOps.addf (h_v723) (h_v728)) (congrArg₂ FloatOps.addf (h_v733) (h_v738)))) (congrArg₂ FloatOps.addf (congrArg₂ FloatOps.addf (congrArg₂ FloatOps.addf (h_v743) (h_v748)) (congrArg₂ FloatOps.addf (h_v753) (h_v758))) (congrArg₂ FloatOps.addf (congrArg₂ FloatOps.addf (h_v763) (h_v768)) (congrArg₂ FloatOps.addf (h_v773) (h_v778))))) (congrArg₂ FloatOps.addf (congrArg₂ FloatOps.addf (congrArg₂ FloatOps.addf (congrArg₂ FloatOps.addf (h_v783) (h_v788)) (congrArg₂ FloatOps.addf (h_v793) (h_v798))) (congrArg₂ FloatOps.addf (congrArg₂ FloatOps.addf (h_v803) (h_v808)) (congrArg₂ FloatOps.addf (h_v813) (h_v818)))) (congrArg₂ FloatOps.addf (congrArg₂ FloatOps.addf (congrArg₂ FloatOps.addf (h_v823) (h_v828)) (congrArg₂ FloatOps.addf (h_v833) (h_v838))) (congrArg₂ FloatOps.addf (congrArg₂ FloatOps.addf (h_v843) (h_v848)) (congrArg₂ FloatOps.addf (h_v853) ((cast_16 v857 l).trans h_v857)))))

theorem k5_pay125_lane (v898 : Vec F S1x1x16 .f32) (l : Fin 16) :
    k5_pay125 v898 (ix1 l) = v898 (ix3 (0 : Fin 1) (0 : Fin 1) l) := by
  unfold k5_pay125
  exact cast_16 v898 l

theorem k5_pay126_lane (v903 : Vec F S1x1x16 .f32) (l : Fin 16) :
    k5_pay126 v903 (ix1 l) = v903 (ix3 (0 : Fin 1) (0 : Fin 1) l) := by
  unfold k5_pay126
  exact cast_16 v903 l

theorem k5_pay127_lane (v908 : Vec F S1x1x16 .f32) (l : Fin 16) :
    k5_pay127 v908 (ix1 l) = v908 (ix3 (0 : Fin 1) (0 : Fin 1) l) := by
  unfold k5_pay127
  exact cast_16 v908 l

theorem k5_pay128_lane (v913 : Vec F S1x1x16 .f32) (l : Fin 16) :
    k5_pay128 v913 (ix1 l) = v913 (ix3 (0 : Fin 1) (0 : Fin 1) l) := by
  unfold k5_pay128
  exact cast_16 v913 l

theorem k5_pay129_lane (v918 : Vec F S1x1x16 .f32) (l : Fin 16) :
    k5_pay129 v918 (ix1 l) = v918 (ix3 (0 : Fin 1) (0 : Fin 1) l) := by
  unfold k5_pay129
  exact cast_16 v918 l

theorem k5_pay130_lane (v923 : Vec F S1x1x16 .f32) (l : Fin 16) :
    k5_pay130 v923 (ix1 l) = v923 (ix3 (0 : Fin 1) (0 : Fin 1) l) := by
  unfold k5_pay130
  exact cast_16 v923 l

theorem k5_pay131_lane (v928 : Vec F S1x1x16 .f32) (l : Fin 16) :
    k5_pay131 v928 (ix1 l) = v928 (ix3 (0 : Fin 1) (0 : Fin 1) l) := by
  unfold k5_pay131
  exact cast_16 v928 l

theorem k5_pay132_lane (v933 : Vec F S1x1x16 .f32) (l : Fin 16) :
    k5_pay132 v933 (ix1 l) = v933 (ix3 (0 : Fin 1) (0 : Fin 1) l) := by
  unfold k5_pay132
  exact cast_16 v933 l

theorem k5_pay133_lane (v938 : Vec F S1x1x16 .f32) (l : Fin 16) :
    k5_pay133 v938 (ix1 l) = v938 (ix3 (0 : Fin 1) (0 : Fin 1) l) := by
  unfold k5_pay133
  exact cast_16 v938 l

theorem k5_pay134_lane (v943 : Vec F S1x1x16 .f32) (l : Fin 16) :
    k5_pay134 v943 (ix1 l) = v943 (ix3 (0 : Fin 1) (0 : Fin 1) l) := by
  unfold k5_pay134
  exact cast_16 v943 l

theorem k5_pay135_lane (v948 : Vec F S1x1x16 .f32) (l : Fin 16) :
    k5_pay135 v948 (ix1 l) = v948 (ix3 (0 : Fin 1) (0 : Fin 1) l) := by
  unfold k5_pay135
  exact cast_16 v948 l

theorem k5_pay136_lane (v953 : Vec F S1x1x16 .f32) (l : Fin 16) :
    k5_pay136 v953 (ix1 l) = v953 (ix3 (0 : Fin 1) (0 : Fin 1) l) := by
  unfold k5_pay136
  exact cast_16 v953 l

theorem k5_pay137_lane (v958 : Vec F S1x1x16 .f32) (l : Fin 16) :
    k5_pay137 v958 (ix1 l) = v958 (ix3 (0 : Fin 1) (0 : Fin 1) l) := by
  unfold k5_pay137
  exact cast_16 v958 l

theorem k5_pay138_lane (v963 : Vec F S1x1x16 .f32) (l : Fin 16) :
    k5_pay138 v963 (ix1 l) = v963 (ix3 (0 : Fin 1) (0 : Fin 1) l) := by
  unfold k5_pay138
  exact cast_16 v963 l

theorem k5_pay139_lane (v968 : Vec F S1x1x16 .f32) (l : Fin 16) :
    k5_pay139 v968 (ix1 l) = v968 (ix3 (0 : Fin 1) (0 : Fin 1) l) := by
  unfold k5_pay139
  exact cast_16 v968 l

theorem k5_pay140_lane (v973 : Vec F S1x1x16 .f32) (l : Fin 16) :
    k5_pay140 v973 (ix1 l) = v973 (ix3 (0 : Fin 1) (0 : Fin 1) l) := by
  unfold k5_pay140
  exact cast_16 v973 l

theorem k5_pay141_lane (v978 : Vec F S1x1x16 .f32) (l : Fin 16) :
    k5_pay141 v978 (ix1 l) = v978 (ix3 (0 : Fin 1) (0 : Fin 1) l) := by
  unfold k5_pay141
  exact cast_16 v978 l

theorem k5_pay142_lane (v983 : Vec F S1x1x16 .f32) (l : Fin 16) :
    k5_pay142 v983 (ix1 l) = v983 (ix3 (0 : Fin 1) (0 : Fin 1) l) := by
  unfold k5_pay142
  exact cast_16 v983 l

theorem k5_pay143_lane (v988 : Vec F S1x1x16 .f32) (l : Fin 16) :
    k5_pay143 v988 (ix1 l) = v988 (ix3 (0 : Fin 1) (0 : Fin 1) l) := by
  unfold k5_pay143
  exact cast_16 v988 l

theorem k5_pay144_lane (v993 : Vec F S1x1x16 .f32) (l : Fin 16) :
    k5_pay144 v993 (ix1 l) = v993 (ix3 (0 : Fin 1) (0 : Fin 1) l) := by
  unfold k5_pay144
  exact cast_16 v993 l

theorem k5_pay145_lane (v998 : Vec F S1x1x16 .f32) (l : Fin 16) :
    k5_pay145 v998 (ix1 l) = v998 (ix3 (0 : Fin 1) (0 : Fin 1) l) := by
  unfold k5_pay145
  exact cast_16 v998 l

theorem k5_pay146_lane (v1003 : Vec F S1x1x16 .f32) (l : Fin 16) :
    k5_pay146 v1003 (ix1 l) = v1003 (ix3 (0 : Fin 1) (0 : Fin 1) l) := by
  unfold k5_pay146
  exact cast_16 v1003 l

theorem k5_pay147_lane (v1008 : Vec F S1x1x16 .f32) (l : Fin 16) :
    k5_pay147 v1008 (ix1 l) = v1008 (ix3 (0 : Fin 1) (0 : Fin 1) l) := by
  unfold k5_pay147
  exact cast_16 v1008 l

theorem k5_pay148_lane (v1013 : Vec F S1x1x16 .f32) (l : Fin 16) :
    k5_pay148 v1013 (ix1 l) = v1013 (ix3 (0 : Fin 1) (0 : Fin 1) l) := by
  unfold k5_pay148
  exact cast_16 v1013 l

theorem k5_pay149_lane (v1018 : Vec F S1x1x16 .f32) (l : Fin 16) :
    k5_pay149 v1018 (ix1 l) = v1018 (ix3 (0 : Fin 1) (0 : Fin 1) l) := by
  unfold k5_pay149
  exact cast_16 v1018 l

theorem k5_pay150_lane (v1023 : Vec F S1x1x16 .f32) (l : Fin 16) :
    k5_pay150 v1023 (ix1 l) = v1023 (ix3 (0 : Fin 1) (0 : Fin 1) l) := by
  unfold k5_pay150
  exact cast_16 v1023 l

theorem k5_pay151_lane (v1028 : Vec F S1x1x16 .f32) (l : Fin 16) :
    k5_pay151 v1028 (ix1 l) = v1028 (ix3 (0 : Fin 1) (0 : Fin 1) l) := by
  unfold k5_pay151
  exact cast_16 v1028 l

theorem k5_pay152_lane (v1033 : Vec F S1x1x16 .f32) (l : Fin 16) :
    k5_pay152 v1033 (ix1 l) = v1033 (ix3 (0 : Fin 1) (0 : Fin 1) l) := by
  unfold k5_pay152
  exact cast_16 v1033 l

theorem k5_pay153_lane (v1038 : Vec F S1x1x16 .f32) (l : Fin 16) :
    k5_pay153 v1038 (ix1 l) = v1038 (ix3 (0 : Fin 1) (0 : Fin 1) l) := by
  unfold k5_pay153
  exact cast_16 v1038 l

theorem k5_pay154_lane (v1043 : Vec F S1x1x16 .f32) (l : Fin 16) :
    k5_pay154 v1043 (ix1 l) = v1043 (ix3 (0 : Fin 1) (0 : Fin 1) l) := by
  unfold k5_pay154
  exact cast_16 v1043 l

theorem k5_pay155_lane (v1048 : Vec F S1x1x16 .f32) (l : Fin 16) :
    k5_pay155 v1048 (ix1 l) = v1048 (ix3 (0 : Fin 1) (0 : Fin 1) l) := by
  unfold k5_pay155
  exact cast_16 v1048 l

theorem k5_pay156_lane (v1053 : Vec F S1x1x16 .f32) (l : Fin 16) :
    k5_pay156 v1053 (ix1 l) = v1053 (ix3 (0 : Fin 1) (0 : Fin 1) l) := by
  unfold k5_pay156
  exact cast_16 v1053 l

theorem k5_pay157_lane (v899 : FVec F S16 .f32) (v904 : FVec F S16 .f32) (l : Fin 16) :
    k5_pay157 v899 v904 (ix1 l) = FloatOps.addf (v899 (ix1 l)) (v904 (ix1 l)) := by
  unfold k5_pay157
  exact congrArg₂ FloatOps.addf (rfl) (rfl)

theorem k5_pay158_lane (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (l : Fin 16) :
    k5_pay158 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = FloatOps.addf (FloatOps.addf (FloatOps.addf (FloatOps.addf (v1055 (ix1 l)) (FloatOps.addf (v909 (ix1 l)) (v914 (ix1 l)))) (FloatOps.addf (FloatOps.addf (v919 (ix1 l)) (v924 (ix1 l))) (FloatOps.addf (v929 (ix1 l)) (v934 (ix1 l))))) (FloatOps.addf (FloatOps.addf (FloatOps.addf (v939 (ix1 l)) (v944 (ix1 l))) (FloatOps.addf (v949 (ix1 l)) (v954 (ix1 l)))) (FloatOps.addf (FloatOps.addf (v959 (ix1 l)) (v964 (ix1 l))) (FloatOps.addf (v969 (ix1 l)) (v974 (ix1 l)))))) (FloatOps.addf (FloatOps.addf (FloatOps.addf (FloatOps.addf (v979 (ix1 l)) (v984 (ix1 l))) (FloatOps.addf (v989 (ix1 l)) (v994 (ix1 l)))) (FloatOps.addf (FloatOps.addf (v999 (ix1 l)) (v1004 (ix1 l))) (FloatOps.addf (v1009 (ix1 l)) (v1014 (ix1 l))))) (FloatOps.addf (FloatOps.addf (FloatOps.addf (v1019 (ix1 l)) (v1024 (ix1 l))) (FloatOps.addf (v1029 (ix1 l)) (v1034 (ix1 l)))) (FloatOps.addf (FloatOps.addf (v1039 (ix1 l)) (v1044 (ix1 l))) (FloatOps.addf (v1049 (ix1 l)) (v1054 (ix1 l)))))) := by
  unfold k5_pay158
  refine (cast_116 _ l).trans ?_
  exact congrArg₂ FloatOps.addf (congrArg₂ FloatOps.addf (congrArg₂ FloatOps.addf (congrArg₂ FloatOps.addf (rfl) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k5_pay158_tree (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (w : Fin 32 → F .f32) (l : Fin 16)
    (h_v1055 : v1055 (ix1 l) = FloatOps.addf (w 0) (w 1))
    (h_v909 : v909 (ix1 l) = w 2)
    (h_v914 : v914 (ix1 l) = w 3)
    (h_v919 : v919 (ix1 l) = w 4)
    (h_v924 : v924 (ix1 l) = w 5)
    (h_v929 : v929 (ix1 l) = w 6)
    (h_v934 : v934 (ix1 l) = w 7)
    (h_v939 : v939 (ix1 l) = w 8)
    (h_v944 : v944 (ix1 l) = w 9)
    (h_v949 : v949 (ix1 l) = w 10)
    (h_v954 : v954 (ix1 l) = w 11)
    (h_v959 : v959 (ix1 l) = w 12)
    (h_v964 : v964 (ix1 l) = w 13)
    (h_v969 : v969 (ix1 l) = w 14)
    (h_v974 : v974 (ix1 l) = w 15)
    (h_v979 : v979 (ix1 l) = w 16)
    (h_v984 : v984 (ix1 l) = w 17)
    (h_v989 : v989 (ix1 l) = w 18)
    (h_v994 : v994 (ix1 l) = w 19)
    (h_v999 : v999 (ix1 l) = w 20)
    (h_v1004 : v1004 (ix1 l) = w 21)
    (h_v1009 : v1009 (ix1 l) = w 22)
    (h_v1014 : v1014 (ix1 l) = w 23)
    (h_v1019 : v1019 (ix1 l) = w 24)
    (h_v1024 : v1024 (ix1 l) = w 25)
    (h_v1029 : v1029 (ix1 l) = w 26)
    (h_v1034 : v1034 (ix1 l) = w 27)
    (h_v1039 : v1039 (ix1 l) = w 28)
    (h_v1044 : v1044 (ix1 l) = w 29)
    (h_v1049 : v1049 (ix1 l) = w 30)
    (h_v1054 : v1054 (ix1 l) = w 31) :
    k5_pay158 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = tree32 w := by
  unfold k5_pay158
  refine (cast_116 _ l).trans ?_
  exact congrArg₂ FloatOps.addf (congrArg₂ FloatOps.addf (congrArg₂ FloatOps.addf (congrArg₂ FloatOps.addf (h_v1055) (congrArg₂ FloatOps.addf (h_v909) (h_v914))) (congrArg₂ FloatOps.addf (congrArg₂ FloatOps.addf (h_v919) (h_v924)) (congrArg₂ FloatOps.addf (h_v929) (h_v934)))) (congrArg₂ FloatOps.addf (congrArg₂ FloatOps.addf (congrArg₂ FloatOps.addf (h_v939) (h_v944)) (congrArg₂ FloatOps.addf (h_v949) (h_v954))) (congrArg₂ FloatOps.addf (congrArg₂ FloatOps.addf (h_v959) (h_v964)) (congrArg₂ FloatOps.addf (h_v969) (h_v974))))) (congrArg₂ FloatOps.addf (congrArg₂ FloatOps.addf (congrArg₂ FloatOps.addf (congrArg₂ FloatOps.addf (h_v979) (h_v984)) (congrArg₂ FloatOps.addf (h_v989) (h_v994))) (congrArg₂ FloatOps.addf (congrArg₂ FloatOps.addf (h_v999) (h_v1004)) (congrArg₂ FloatOps.addf (h_v1009) (h_v1014)))) (congrArg₂ FloatOps.addf (congrArg₂ FloatOps.addf (congrArg₂ FloatOps.addf (h_v1019) (h_v1024)) (congrArg₂ FloatOps.addf (h_v1029) (h_v1034))) (congrArg₂ FloatOps.addf (congrArg₂ FloatOps.addf (h_v1039) (h_v1044)) (congrArg₂ FloatOps.addf (h_v1049) (h_v1054)))))

theorem k5_pay159_lane (v1094 : Vec F S1x1x16 .f32) (l : Fin 16) :
    k5_pay159 v1094 (ix1 l) = v1094 (ix3 (0 : Fin 1) (0 : Fin 1) l) := by
  unfold k5_pay159
  exact cast_16 v1094 l

theorem k5_pay160_lane (v1099 : Vec F S1x1x16 .f32) (l : Fin 16) :
    k5_pay160 v1099 (ix1 l) = v1099 (ix3 (0 : Fin 1) (0 : Fin 1) l) := by
  unfold k5_pay160
  exact cast_16 v1099 l

theorem k5_pay161_lane (v1104 : Vec F S1x1x16 .f32) (l : Fin 16) :
    k5_pay161 v1104 (ix1 l) = v1104 (ix3 (0 : Fin 1) (0 : Fin 1) l) := by
  unfold k5_pay161
  exact cast_16 v1104 l

theorem k5_pay162_lane (v1109 : Vec F S1x1x16 .f32) (l : Fin 16) :
    k5_pay162 v1109 (ix1 l) = v1109 (ix3 (0 : Fin 1) (0 : Fin 1) l) := by
  unfold k5_pay162
  exact cast_16 v1109 l

theorem k5_pay163_lane (v1114 : Vec F S1x1x16 .f32) (l : Fin 16) :
    k5_pay163 v1114 (ix1 l) = v1114 (ix3 (0 : Fin 1) (0 : Fin 1) l) := by
  unfold k5_pay163
  exact cast_16 v1114 l

theorem k5_pay164_lane (v1119 : Vec F S1x1x16 .f32) (l : Fin 16) :
    k5_pay164 v1119 (ix1 l) = v1119 (ix3 (0 : Fin 1) (0 : Fin 1) l) := by
  unfold k5_pay164
  exact cast_16 v1119 l

theorem k5_pay165_lane (v1124 : Vec F S1x1x16 .f32) (l : Fin 16) :
    k5_pay165 v1124 (ix1 l) = v1124 (ix3 (0 : Fin 1) (0 : Fin 1) l) := by
  unfold k5_pay165
  exact cast_16 v1124 l

theorem k5_pay166_lane (v1129 : Vec F S1x1x16 .f32) (l : Fin 16) :
    k5_pay166 v1129 (ix1 l) = v1129 (ix3 (0 : Fin 1) (0 : Fin 1) l) := by
  unfold k5_pay166
  exact cast_16 v1129 l

theorem k5_pay167_lane (v1134 : Vec F S1x1x16 .f32) (l : Fin 16) :
    k5_pay167 v1134 (ix1 l) = v1134 (ix3 (0 : Fin 1) (0 : Fin 1) l) := by
  unfold k5_pay167
  exact cast_16 v1134 l

theorem k5_pay168_lane (v1139 : Vec F S1x1x16 .f32) (l : Fin 16) :
    k5_pay168 v1139 (ix1 l) = v1139 (ix3 (0 : Fin 1) (0 : Fin 1) l) := by
  unfold k5_pay168
  exact cast_16 v1139 l

theorem k5_pay169_lane (v1144 : Vec F S1x1x16 .f32) (l : Fin 16) :
    k5_pay169 v1144 (ix1 l) = v1144 (ix3 (0 : Fin 1) (0 : Fin 1) l) := by
  unfold k5_pay169
  exact cast_16 v1144 l

theorem k5_pay170_lane (v1149 : Vec F S1x1x16 .f32) (l : Fin 16) :
    k5_pay170 v1149 (ix1 l) = v1149 (ix3 (0 : Fin 1) (0 : Fin 1) l) := by
  unfold k5_pay170
  exact cast_16 v1149 l

theorem k5_pay171_lane (v1154 : Vec F S1x1x16 .f32) (l : Fin 16) :
    k5_pay171 v1154 (ix1 l) = v1154 (ix3 (0 : Fin 1) (0 : Fin 1) l) := by
  unfold k5_pay171
  exact cast_16 v1154 l

theorem k5_pay172_lane (v1159 : Vec F S1x1x16 .f32) (l : Fin 16) :
    k5_pay172 v1159 (ix1 l) = v1159 (ix3 (0 : Fin 1) (0 : Fin 1) l) := by
  unfold k5_pay172
  exact cast_16 v1159 l

theorem k5_pay173_lane (v1164 : Vec F S1x1x16 .f32) (l : Fin 16) :
    k5_pay173 v1164 (ix1 l) = v1164 (ix3 (0 : Fin 1) (0 : Fin 1) l) := by
  unfold k5_pay173
  exact cast_16 v1164 l

theorem k5_pay174_lane (v1169 : Vec F S1x1x16 .f32) (l : Fin 16) :
    k5_pay174 v1169 (ix1 l) = v1169 (ix3 (0 : Fin 1) (0 : Fin 1) l) := by
  unfold k5_pay174
  exact cast_16 v1169 l

theorem k5_pay175_lane (v1174 : Vec F S1x1x16 .f32) (l : Fin 16) :
    k5_pay175 v1174 (ix1 l) = v1174 (ix3 (0 : Fin 1) (0 : Fin 1) l) := by
  unfold k5_pay175
  exact cast_16 v1174 l

theorem k5_pay176_lane (v1179 : Vec F S1x1x16 .f32) (l : Fin 16) :
    k5_pay176 v1179 (ix1 l) = v1179 (ix3 (0 : Fin 1) (0 : Fin 1) l) := by
  unfold k5_pay176
  exact cast_16 v1179 l

theorem k5_pay177_lane (v1184 : Vec F S1x1x16 .f32) (l : Fin 16) :
    k5_pay177 v1184 (ix1 l) = v1184 (ix3 (0 : Fin 1) (0 : Fin 1) l) := by
  unfold k5_pay177
  exact cast_16 v1184 l

theorem k5_pay178_lane (v1189 : Vec F S1x1x16 .f32) (l : Fin 16) :
    k5_pay178 v1189 (ix1 l) = v1189 (ix3 (0 : Fin 1) (0 : Fin 1) l) := by
  unfold k5_pay178
  exact cast_16 v1189 l

theorem k5_pay179_lane (v1194 : Vec F S1x1x16 .f32) (l : Fin 16) :
    k5_pay179 v1194 (ix1 l) = v1194 (ix3 (0 : Fin 1) (0 : Fin 1) l) := by
  unfold k5_pay179
  exact cast_16 v1194 l

theorem k5_pay180_lane (v1199 : Vec F S1x1x16 .f32) (l : Fin 16) :
    k5_pay180 v1199 (ix1 l) = v1199 (ix3 (0 : Fin 1) (0 : Fin 1) l) := by
  unfold k5_pay180
  exact cast_16 v1199 l

theorem k5_pay181_lane (v1204 : Vec F S1x1x16 .f32) (l : Fin 16) :
    k5_pay181 v1204 (ix1 l) = v1204 (ix3 (0 : Fin 1) (0 : Fin 1) l) := by
  unfold k5_pay181
  exact cast_16 v1204 l

theorem k5_pay182_lane (v1209 : Vec F S1x1x16 .f32) (l : Fin 16) :
    k5_pay182 v1209 (ix1 l) = v1209 (ix3 (0 : Fin 1) (0 : Fin 1) l) := by
  unfold k5_pay182
  exact cast_16 v1209 l

theorem k5_pay183_lane (v1214 : Vec F S1x1x16 .f32) (l : Fin 16) :
    k5_pay183 v1214 (ix1 l) = v1214 (ix3 (0 : Fin 1) (0 : Fin 1) l) := by
  unfold k5_pay183
  exact cast_16 v1214 l

theorem k5_pay184_lane (v1219 : Vec F S1x1x16 .f32) (l : Fin 16) :
    k5_pay184 v1219 (ix1 l) = v1219 (ix3 (0 : Fin 1) (0 : Fin 1) l) := by
  unfold k5_pay184
  exact cast_16 v1219 l

theorem k5_pay185_lane (v1224 : Vec F S1x1x16 .f32) (l : Fin 16) :
    k5_pay185 v1224 (ix1 l) = v1224 (ix3 (0 : Fin 1) (0 : Fin 1) l) := by
  unfold k5_pay185
  exact cast_16 v1224 l

theorem k5_pay186_lane (v1229 : Vec F S1x1x16 .f32) (l : Fin 16) :
    k5_pay186 v1229 (ix1 l) = v1229 (ix3 (0 : Fin 1) (0 : Fin 1) l) := by
  unfold k5_pay186
  exact cast_16 v1229 l

theorem k5_pay187_lane (v1234 : Vec F S1x1x16 .f32) (l : Fin 16) :
    k5_pay187 v1234 (ix1 l) = v1234 (ix3 (0 : Fin 1) (0 : Fin 1) l) := by
  unfold k5_pay187
  exact cast_16 v1234 l

theorem k5_pay188_lane (v1239 : Vec F S1x1x16 .f32) (l : Fin 16) :
    k5_pay188 v1239 (ix1 l) = v1239 (ix3 (0 : Fin 1) (0 : Fin 1) l) := by
  unfold k5_pay188
  exact cast_16 v1239 l

theorem k5_pay189_lane (v1244 : Vec F S1x1x16 .f32) (l : Fin 16) :
    k5_pay189 v1244 (ix1 l) = v1244 (ix3 (0 : Fin 1) (0 : Fin 1) l) := by
  unfold k5_pay189
  exact cast_16 v1244 l

theorem k5_pay190_lane (v1249 : Vec F S1x1x16 .f32) (l : Fin 16) :
    k5_pay190 v1249 (ix1 l) = v1249 (ix3 (0 : Fin 1) (0 : Fin 1) l) := by
  unfold k5_pay190
  exact cast_16 v1249 l

theorem k5_pay191_lane (v1095 : FVec F S16 .f32) (v1100 : FVec F S16 .f32) (l : Fin 16) :
    k5_pay191 v1095 v1100 (ix1 l) = FloatOps.addf (v1095 (ix1 l)) (v1100 (ix1 l)) := by
  unfold k5_pay191
  exact congrArg₂ FloatOps.addf (rfl) (rfl)

theorem k5_pay192_lane (v1105 : FVec F S16 .f32) (v1110 : FVec F S16 .f32) (l : Fin 16) :
    k5_pay192 v1105 v1110 (ix1 l) = FloatOps.addf (v1105 (ix1 l)) (v1110 (ix1 l)) := by
  unfold k5_pay192
  exact congrArg₂ FloatOps.addf (rfl) (rfl)

theorem k5_pay193_lane (v1115 : FVec F S16 .f32) (v1120 : FVec F S16 .f32) (l : Fin 16) :
    k5_pay193 v1115 v1120 (ix1 l) = FloatOps.addf (v1115 (ix1 l)) (v1120 (ix1 l)) := by
  unfold k5_pay193
  exact congrArg₂ FloatOps.addf (rfl) (rfl)

theorem k5_pay194_lane (v1125 : FVec F S16 .f32) (v1130 : FVec F S16 .f32) (l : Fin 16) :
    k5_pay194 v1125 v1130 (ix1 l) = FloatOps.addf (v1125 (ix1 l)) (v1130 (ix1 l)) := by
  unfold k5_pay194
  exact congrArg₂ FloatOps.addf (rfl) (rfl)

theorem k5_pay195_lane (v1135 : FVec F S16 .f32) (v1140 : FVec F S16 .f32) (l : Fin 16) :
    k5_pay195 v1135 v1140 (ix1 l) = FloatOps.addf (v1135 (ix1 l)) (v1140 (ix1 l)) := by
  unfold k5_pay195
  exact congrArg₂ FloatOps.addf (rfl) (rfl)

theorem k5_pay196_lane (v1145 : FVec F S16 .f32) (v1150 : FVec F S16 .f32) (l : Fin 16) :
    k5_pay196 v1145 v1150 (ix1 l) = FloatOps.addf (v1145 (ix1 l)) (v1150 (ix1 l)) := by
  unfold k5_pay196
  exact congrArg₂ FloatOps.addf (rfl) (rfl)

theorem k5_pay197_lane (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (l : Fin 16) :
    k5_pay197 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = FloatOps.addf (FloatOps.addf (FloatOps.addf (FloatOps.addf (v1251 (ix1 l)) (v1252 (ix1 l))) (FloatOps.addf (v1253 (ix1 l)) (v1254 (ix1 l)))) (FloatOps.addf (FloatOps.addf (v1255 (ix1 l)) (v1256 (ix1 l))) (FloatOps.addf (FloatOps.addf (v1155 (ix1 l)) (v1160 (ix1 l))) (FloatOps.addf (v1165 (ix1 l)) (v1170 (ix1 l)))))) (FloatOps.addf (FloatOps.addf (FloatOps.addf (FloatOps.addf (v1175 (ix1 l)) (v1180 (ix1 l))) (FloatOps.addf (v1185 (ix1 l)) (v1190 (ix1 l)))) (FloatOps.addf (FloatOps.addf (v1195 (ix1 l)) (v1200 (ix1 l))) (FloatOps.addf (v1205 (ix1 l)) (v1210 (ix1 l))))) (FloatOps.addf (FloatOps.addf (FloatOps.addf (v1215 (ix1 l)) (v1220 (ix1 l))) (FloatOps.addf (v1225 (ix1 l)) (v1230 (ix1 l)))) (FloatOps.addf (FloatOps.addf (v1235 (ix1 l)) (v1240 (ix1 l))) (FloatOps.addf (v1245 (ix1 l)) (v1250 (ix1 l)))))) := by
  unfold k5_pay197
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k5_pay197_tree (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (w : Fin 32 → F .f32) (l : Fin 16)
    (h_v1251 : v1251 (ix1 l) = FloatOps.addf (w 0) (w 1))
    (h_v1252 : v1252 (ix1 l) = FloatOps.addf (w 2) (w 3))
    (h_v1253 : v1253 (ix1 l) = FloatOps.addf (w 4) (w 5))
    (h_v1254 : v1254 (ix1 l) = FloatOps.addf (w 6) (w 7))
    (h_v1255 : v1255 (ix1 l) = FloatOps.addf (w 8) (w 9))
    (h_v1256 : v1256 (ix1 l) = FloatOps.addf (w 10) (w 11))
    (h_v1155 : v1155 (ix1 l) = w 12)
    (h_v1160 : v1160 (ix1 l) = w 13)
    (h_v1165 : v1165 (ix1 l) = w 14)
    (h_v1170 : v1170 (ix1 l) = w 15)
    (h_v1175 : v1175 (ix1 l) = w 16)
    (h_v1180 : v1180 (ix1 l) = w 17)
    (h_v1185 : v1185 (ix1 l) = w 18)
    (h_v1190 : v1190 (ix1 l) = w 19)
    (h_v1195 : v1195 (ix1 l) = w 20)
    (h_v1200 : v1200 (ix1 l) = w 21)
    (h_v1205 : v1205 (ix1 l) = w 22)
    (h_v1210 : v1210 (ix1 l) = w 23)
    (h_v1215 : v1215 (ix1 l) = w 24)
    (h_v1220 : v1220 (ix1 l) = w 25)
    (h_v1225 : v1225 (ix1 l) = w 26)
    (h_v1230 : v1230 (ix1 l) = w 27)
    (h_v1235 : v1235 (ix1 l) = w 28)
    (h_v1240 : v1240 (ix1 l) = w 29)
    (h_v1245 : v1245 (ix1 l) = w 30)
    (h_v1250 : v1250 (ix1 l) = w 31) :
    k5_pay197 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = tree32 w := by
  unfold k5_pay197
  refine (cast_116 _ l).trans ?_
  exact congrArg₂ FloatOps.addf (congrArg₂ FloatOps.addf (congrArg₂ FloatOps.addf (congrArg₂ FloatOps.addf (h_v1251) (h_v1252)) (congrArg₂ FloatOps.addf (h_v1253) (h_v1254))) (congrArg₂ FloatOps.addf (congrArg₂ FloatOps.addf (h_v1255) (h_v1256)) (congrArg₂ FloatOps.addf (congrArg₂ FloatOps.addf (h_v1155) (h_v1160)) (congrArg₂ FloatOps.addf (h_v1165) (h_v1170))))) (congrArg₂ FloatOps.addf (congrArg₂ FloatOps.addf (congrArg₂ FloatOps.addf (congrArg₂ FloatOps.addf (h_v1175) (h_v1180)) (congrArg₂ FloatOps.addf (h_v1185) (h_v1190))) (congrArg₂ FloatOps.addf (congrArg₂ FloatOps.addf (h_v1195) (h_v1200)) (congrArg₂ FloatOps.addf (h_v1205) (h_v1210)))) (congrArg₂ FloatOps.addf (congrArg₂ FloatOps.addf (congrArg₂ FloatOps.addf (h_v1215) (h_v1220)) (congrArg₂ FloatOps.addf (h_v1225) (h_v1230))) (congrArg₂ FloatOps.addf (congrArg₂ FloatOps.addf (h_v1235) (h_v1240)) (congrArg₂ FloatOps.addf (h_v1245) (h_v1250)))))

theorem k5_pay198_lane (v1290 : Vec F S1x1x16 .f32) (l : Fin 16) :
    k5_pay198 v1290 (ix1 l) = v1290 (ix3 (0 : Fin 1) (0 : Fin 1) l) := by
  unfold k5_pay198
  exact cast_16 v1290 l

theorem k5_pay199_lane (v1295 : Vec F S1x1x16 .f32) (l : Fin 16) :
    k5_pay199 v1295 (ix1 l) = v1295 (ix3 (0 : Fin 1) (0 : Fin 1) l) := by
  unfold k5_pay199
  exact cast_16 v1295 l

theorem k5_pay200_lane (v1300 : Vec F S1x1x16 .f32) (l : Fin 16) :
    k5_pay200 v1300 (ix1 l) = v1300 (ix3 (0 : Fin 1) (0 : Fin 1) l) := by
  unfold k5_pay200
  exact cast_16 v1300 l

theorem k5_pay201_lane (v1305 : Vec F S1x1x16 .f32) (l : Fin 16) :
    k5_pay201 v1305 (ix1 l) = v1305 (ix3 (0 : Fin 1) (0 : Fin 1) l) := by
  unfold k5_pay201
  exact cast_16 v1305 l

theorem k5_pay202_lane (v1310 : Vec F S1x1x16 .f32) (l : Fin 16) :
    k5_pay202 v1310 (ix1 l) = v1310 (ix3 (0 : Fin 1) (0 : Fin 1) l) := by
  unfold k5_pay202
  exact cast_16 v1310 l

theorem k5_pay203_lane (v1315 : Vec F S1x1x16 .f32) (l : Fin 16) :
    k5_pay203 v1315 (ix1 l) = v1315 (ix3 (0 : Fin 1) (0 : Fin 1) l) := by
  unfold k5_pay203
  exact cast_16 v1315 l

theorem k5_pay204_lane (v1320 : Vec F S1x1x16 .f32) (l : Fin 16) :
    k5_pay204 v1320 (ix1 l) = v1320 (ix3 (0 : Fin 1) (0 : Fin 1) l) := by
  unfold k5_pay204
  exact cast_16 v1320 l

theorem k5_pay205_lane (v1325 : Vec F S1x1x16 .f32) (l : Fin 16) :
    k5_pay205 v1325 (ix1 l) = v1325 (ix3 (0 : Fin 1) (0 : Fin 1) l) := by
  unfold k5_pay205
  exact cast_16 v1325 l

theorem k5_pay206_lane (v1330 : Vec F S1x1x16 .f32) (l : Fin 16) :
    k5_pay206 v1330 (ix1 l) = v1330 (ix3 (0 : Fin 1) (0 : Fin 1) l) := by
  unfold k5_pay206
  exact cast_16 v1330 l

theorem k5_pay207_lane (v1335 : Vec F S1x1x16 .f32) (l : Fin 16) :
    k5_pay207 v1335 (ix1 l) = v1335 (ix3 (0 : Fin 1) (0 : Fin 1) l) := by
  unfold k5_pay207
  exact cast_16 v1335 l

theorem k5_pay208_lane (v1340 : Vec F S1x1x16 .f32) (l : Fin 16) :
    k5_pay208 v1340 (ix1 l) = v1340 (ix3 (0 : Fin 1) (0 : Fin 1) l) := by
  unfold k5_pay208
  exact cast_16 v1340 l

theorem k5_pay209_lane (v1345 : Vec F S1x1x16 .f32) (l : Fin 16) :
    k5_pay209 v1345 (ix1 l) = v1345 (ix3 (0 : Fin 1) (0 : Fin 1) l) := by
  unfold k5_pay209
  exact cast_16 v1345 l

theorem k5_pay210_lane (v1350 : Vec F S1x1x16 .f32) (l : Fin 16) :
    k5_pay210 v1350 (ix1 l) = v1350 (ix3 (0 : Fin 1) (0 : Fin 1) l) := by
  unfold k5_pay210
  exact cast_16 v1350 l

theorem k5_pay211_lane (v1355 : Vec F S1x1x16 .f32) (l : Fin 16) :
    k5_pay211 v1355 (ix1 l) = v1355 (ix3 (0 : Fin 1) (0 : Fin 1) l) := by
  unfold k5_pay211
  exact cast_16 v1355 l

theorem k5_pay212_lane (v1360 : Vec F S1x1x16 .f32) (l : Fin 16) :
    k5_pay212 v1360 (ix1 l) = v1360 (ix3 (0 : Fin 1) (0 : Fin 1) l) := by
  unfold k5_pay212
  exact cast_16 v1360 l

theorem k5_pay213_lane (v1365 : Vec F S1x1x16 .f32) (l : Fin 16) :
    k5_pay213 v1365 (ix1 l) = v1365 (ix3 (0 : Fin 1) (0 : Fin 1) l) := by
  unfold k5_pay213
  exact cast_16 v1365 l

theorem k5_pay214_lane (v1370 : Vec F S1x1x16 .f32) (l : Fin 16) :
    k5_pay214 v1370 (ix1 l) = v1370 (ix3 (0 : Fin 1) (0 : Fin 1) l) := by
  unfold k5_pay214
  exact cast_16 v1370 l

theorem k5_pay215_lane (v1375 : Vec F S1x1x16 .f32) (l : Fin 16) :
    k5_pay215 v1375 (ix1 l) = v1375 (ix3 (0 : Fin 1) (0 : Fin 1) l) := by
  unfold k5_pay215
  exact cast_16 v1375 l

theorem k5_pay216_lane (v1380 : Vec F S1x1x16 .f32) (l : Fin 16) :
    k5_pay216 v1380 (ix1 l) = v1380 (ix3 (0 : Fin 1) (0 : Fin 1) l) := by
  unfold k5_pay216
  exact cast_16 v1380 l

theorem k5_pay217_lane (v1385 : Vec F S1x1x16 .f32) (l : Fin 16) :
    k5_pay217 v1385 (ix1 l) = v1385 (ix3 (0 : Fin 1) (0 : Fin 1) l) := by
  unfold k5_pay217
  exact cast_16 v1385 l

theorem k5_pay218_lane (v1390 : Vec F S1x1x16 .f32) (l : Fin 16) :
    k5_pay218 v1390 (ix1 l) = v1390 (ix3 (0 : Fin 1) (0 : Fin 1) l) := by
  unfold k5_pay218
  exact cast_16 v1390 l

theorem k5_pay219_lane (v1395 : Vec F S1x1x16 .f32) (l : Fin 16) :
    k5_pay219 v1395 (ix1 l) = v1395 (ix3 (0 : Fin 1) (0 : Fin 1) l) := by
  unfold k5_pay219
  exact cast_16 v1395 l

theorem k5_pay220_lane (v1400 : Vec F S1x1x16 .f32) (l : Fin 16) :
    k5_pay220 v1400 (ix1 l) = v1400 (ix3 (0 : Fin 1) (0 : Fin 1) l) := by
  unfold k5_pay220
  exact cast_16 v1400 l

theorem k5_pay221_lane (v1405 : Vec F S1x1x16 .f32) (l : Fin 16) :
    k5_pay221 v1405 (ix1 l) = v1405 (ix3 (0 : Fin 1) (0 : Fin 1) l) := by
  unfold k5_pay221
  exact cast_16 v1405 l

theorem k5_pay222_lane (v1410 : Vec F S1x1x16 .f32) (l : Fin 16) :
    k5_pay222 v1410 (ix1 l) = v1410 (ix3 (0 : Fin 1) (0 : Fin 1) l) := by
  unfold k5_pay222
  exact cast_16 v1410 l

theorem k5_pay223_lane (v1415 : Vec F S1x1x16 .f32) (l : Fin 16) :
    k5_pay223 v1415 (ix1 l) = v1415 (ix3 (0 : Fin 1) (0 : Fin 1) l) := by
  unfold k5_pay223
  exact cast_16 v1415 l

theorem k5_pay224_lane (v1420 : Vec F S1x1x16 .f32) (l : Fin 16) :
    k5_pay224 v1420 (ix1 l) = v1420 (ix3 (0 : Fin 1) (0 : Fin 1) l) := by
  unfold k5_pay224
  exact cast_16 v1420 l

theorem k5_pay225_lane (v1425 : Vec F S1x1x16 .f32) (l : Fin 16) :
    k5_pay225 v1425 (ix1 l) = v1425 (ix3 (0 : Fin 1) (0 : Fin 1) l) := by
  unfold k5_pay225
  exact cast_16 v1425 l

theorem k5_pay226_lane (v1430 : Vec F S1x1x16 .f32) (l : Fin 16) :
    k5_pay226 v1430 (ix1 l) = v1430 (ix3 (0 : Fin 1) (0 : Fin 1) l) := by
  unfold k5_pay226
  exact cast_16 v1430 l

theorem k5_pay227_lane (v1435 : Vec F S1x1x16 .f32) (l : Fin 16) :
    k5_pay227 v1435 (ix1 l) = v1435 (ix3 (0 : Fin 1) (0 : Fin 1) l) := by
  unfold k5_pay227
  exact cast_16 v1435 l

theorem k5_pay228_lane (v1440 : Vec F S1x1x16 .f32) (l : Fin 16) :
    k5_pay228 v1440 (ix1 l) = v1440 (ix3 (0 : Fin 1) (0 : Fin 1) l) := by
  unfold k5_pay228
  exact cast_16 v1440 l

theorem k5_pay229_lane (v1445 : Vec F S1x1x16 .f32) (l : Fin 16) :
    k5_pay229 v1445 (ix1 l) = v1445 (ix3 (0 : Fin 1) (0 : Fin 1) l) := by
  unfold k5_pay229
  exact cast_16 v1445 l

theorem k5_pay230_lane (v1291 : FVec F S16 .f32) (v1296 : FVec F S16 .f32) (l : Fin 16) :
    k5_pay230 v1291 v1296 (ix1 l) = FloatOps.addf (v1291 (ix1 l)) (v1296 (ix1 l)) := by
  unfold k5_pay230
  exact congrArg₂ FloatOps.addf (rfl) (rfl)

theorem k5_pay231_lane (v1301 : FVec F S16 .f32) (v1306 : FVec F S16 .f32) (l : Fin 16) :
    k5_pay231 v1301 v1306 (ix1 l) = FloatOps.addf (v1301 (ix1 l)) (v1306 (ix1 l)) := by
  unfold k5_pay231
  exact congrArg₂ FloatOps.addf (rfl) (rfl)

theorem k5_pay232_lane (v1311 : FVec F S16 .f32) (v1316 : FVec F S16 .f32) (l : Fin 16) :
    k5_pay232 v1311 v1316 (ix1 l) = FloatOps.addf (v1311 (ix1 l)) (v1316 (ix1 l)) := by
  unfold k5_pay232
  exact congrArg₂ FloatOps.addf (rfl) (rfl)

theorem k5_pay233_lane (v1321 : FVec F S16 .f32) (v1326 : FVec F S16 .f32) (l : Fin 16) :
    k5_pay233 v1321 v1326 (ix1 l) = FloatOps.addf (v1321 (ix1 l)) (v1326 (ix1 l)) := by
  unfold k5_pay233
  exact congrArg₂ FloatOps.addf (rfl) (rfl)

theorem k5_pay234_lane (v1331 : FVec F S16 .f32) (v1336 : FVec F S16 .f32) (l : Fin 16) :
    k5_pay234 v1331 v1336 (ix1 l) = FloatOps.addf (v1331 (ix1 l)) (v1336 (ix1 l)) := by
  unfold k5_pay234
  exact congrArg₂ FloatOps.addf (rfl) (rfl)

theorem k5_pay235_lane (v1341 : FVec F S16 .f32) (v1346 : FVec F S16 .f32) (l : Fin 16) :
    k5_pay235 v1341 v1346 (ix1 l) = FloatOps.addf (v1341 (ix1 l)) (v1346 (ix1 l)) := by
  unfold k5_pay235
  exact congrArg₂ FloatOps.addf (rfl) (rfl)

theorem k5_pay236_lane (v1351 : FVec F S16 .f32) (v1356 : FVec F S16 .f32) (l : Fin 16) :
    k5_pay236 v1351 v1356 (ix1 l) = FloatOps.addf (v1351 (ix1 l)) (v1356 (ix1 l)) := by
  unfold k5_pay236
  exact congrArg₂ FloatOps.addf (rfl) (rfl)

theorem k5_pay237_lane (v1361 : FVec F S16 .f32) (v1366 : FVec F S16 .f32) (l : Fin 16) :
    k5_pay237 v1361 v1366 (ix1 l) = FloatOps.addf (v1361 (ix1 l)) (v1366 (ix1 l)) := by
  unfold k5_pay237
  exact congrArg₂ FloatOps.addf (rfl) (rfl)

theorem k5_pay238_lane (v1371 : FVec F S16 .f32) (v1376 : FVec F S16 .f32) (l : Fin 16) :
    k5_pay238 v1371 v1376 (ix1 l) = FloatOps.addf (v1371 (ix1 l)) (v1376 (ix1 l)) := by
  unfold k5_pay238
  exact congrArg₂ FloatOps.addf (rfl) (rfl)

theorem k5_pay239_lane (v1381 : FVec F S16 .f32) (v1386 : FVec F S16 .f32) (l : Fin 16) :
    k5_pay239 v1381 v1386 (ix1 l) = FloatOps.addf (v1381 (ix1 l)) (v1386 (ix1 l)) := by
  unfold k5_pay239
  exact congrArg₂ FloatOps.addf (rfl) (rfl)

theorem k5_pay240_lane (v1391 : FVec F S16 .f32) (v1396 : FVec F S16 .f32) (l : Fin 16) :
    k5_pay240 v1391 v1396 (ix1 l) = FloatOps.addf (v1391 (ix1 l)) (v1396 (ix1 l)) := by
  unfold k5_pay240
  exact congrArg₂ FloatOps.addf (rfl) (rfl)

theorem k5_pay241_lane (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (l : Fin 16) :
    k5_pay241 v1401 v1406 v1411 v1416 v1421 v1426 v1431 v1436 v1441 v1446 v1447 v1448 v1449 v1450 v1451 v1452 v1453 v1454 v1455 v1456 v1457 (ix3 (0 : Fin 1) (0 : Fin 1) l) = FloatOps.addf (FloatOps.addf (FloatOps.addf (FloatOps.addf (v1447 (ix1 l)) (v1448 (ix1 l))) (FloatOps.addf (v1449 (ix1 l)) (v1450 (ix1 l)))) (FloatOps.addf (FloatOps.addf (v1451 (ix1 l)) (v1452 (ix1 l))) (FloatOps.addf (v1453 (ix1 l)) (v1454 (ix1 l))))) (FloatOps.addf (FloatOps.addf (FloatOps.addf (v1455 (ix1 l)) (v1456 (ix1 l))) (FloatOps.addf (v1457 (ix1 l)) (FloatOps.addf (v1401 (ix1 l)) (v1406 (ix1 l))))) (FloatOps.addf (FloatOps.addf (FloatOps.addf (v1411 (ix1 l)) (v1416 (ix1 l))) (FloatOps.addf (v1421 (ix1 l)) (v1426 (ix1 l)))) (FloatOps.addf (FloatOps.addf (v1431 (ix1 l)) (v1436 (ix1 l))) (FloatOps.addf (v1441 (ix1 l)) (v1446 (ix1 l)))))) := by
  unfold k5_pay241
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k5_pay241_tree (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (w : Fin 32 → F .f32) (l : Fin 16)
    (h_v1447 : v1447 (ix1 l) = FloatOps.addf (w 0) (w 1))
    (h_v1448 : v1448 (ix1 l) = FloatOps.addf (w 2) (w 3))
    (h_v1449 : v1449 (ix1 l) = FloatOps.addf (w 4) (w 5))
    (h_v1450 : v1450 (ix1 l) = FloatOps.addf (w 6) (w 7))
    (h_v1451 : v1451 (ix1 l) = FloatOps.addf (w 8) (w 9))
    (h_v1452 : v1452 (ix1 l) = FloatOps.addf (w 10) (w 11))
    (h_v1453 : v1453 (ix1 l) = FloatOps.addf (w 12) (w 13))
    (h_v1454 : v1454 (ix1 l) = FloatOps.addf (w 14) (w 15))
    (h_v1455 : v1455 (ix1 l) = FloatOps.addf (w 16) (w 17))
    (h_v1456 : v1456 (ix1 l) = FloatOps.addf (w 18) (w 19))
    (h_v1457 : v1457 (ix1 l) = FloatOps.addf (w 20) (w 21))
    (h_v1401 : v1401 (ix1 l) = w 22)
    (h_v1406 : v1406 (ix1 l) = w 23)
    (h_v1411 : v1411 (ix1 l) = w 24)
    (h_v1416 : v1416 (ix1 l) = w 25)
    (h_v1421 : v1421 (ix1 l) = w 26)
    (h_v1426 : v1426 (ix1 l) = w 27)
    (h_v1431 : v1431 (ix1 l) = w 28)
    (h_v1436 : v1436 (ix1 l) = w 29)
    (h_v1441 : v1441 (ix1 l) = w 30)
    (h_v1446 : v1446 (ix1 l) = w 31) :
    k5_pay241 v1401 v1406 v1411 v1416 v1421 v1426 v1431 v1436 v1441 v1446 v1447 v1448 v1449 v1450 v1451 v1452 v1453 v1454 v1455 v1456 v1457 (ix3 (0 : Fin 1) (0 : Fin 1) l) = tree32 w := by
  unfold k5_pay241
  refine (cast_116 _ l).trans ?_
  exact congrArg₂ FloatOps.addf (congrArg₂ FloatOps.addf (congrArg₂ FloatOps.addf (congrArg₂ FloatOps.addf (h_v1447) (h_v1448)) (congrArg₂ FloatOps.addf (h_v1449) (h_v1450))) (congrArg₂ FloatOps.addf (congrArg₂ FloatOps.addf (h_v1451) (h_v1452)) (congrArg₂ FloatOps.addf (h_v1453) (h_v1454)))) (congrArg₂ FloatOps.addf (congrArg₂ FloatOps.addf (congrArg₂ FloatOps.addf (h_v1455) (h_v1456)) (congrArg₂ FloatOps.addf (h_v1457) (congrArg₂ FloatOps.addf (h_v1401) (h_v1406)))) (congrArg₂ FloatOps.addf (congrArg₂ FloatOps.addf (congrArg₂ FloatOps.addf (h_v1411) (h_v1416)) (congrArg₂ FloatOps.addf (h_v1421) (h_v1426))) (congrArg₂ FloatOps.addf (congrArg₂ FloatOps.addf (h_v1431) (h_v1436)) (congrArg₂ FloatOps.addf (h_v1441) (h_v1446)))))

theorem k5_pay242_lane (v1486 : Vec F S1x1x16 .f32) (l : Fin 16) :
    k5_pay242 v1486 (ix1 l) = v1486 (ix3 (0 : Fin 1) (0 : Fin 1) l) := by
  unfold k5_pay242
  exact cast_16 v1486 l

theorem k5_pay243_lane (v1491 : Vec F S1x1x16 .f32) (l : Fin 16) :
    k5_pay243 v1491 (ix1 l) = v1491 (ix3 (0 : Fin 1) (0 : Fin 1) l) := by
  unfold k5_pay243
  exact cast_16 v1491 l

theorem k5_pay244_lane (v1496 : Vec F S1x1x16 .f32) (l : Fin 16) :
    k5_pay244 v1496 (ix1 l) = v1496 (ix3 (0 : Fin 1) (0 : Fin 1) l) := by
  unfold k5_pay244
  exact cast_16 v1496 l

theorem k5_pay245_lane (v1501 : Vec F S1x1x16 .f32) (l : Fin 16) :
    k5_pay245 v1501 (ix1 l) = v1501 (ix3 (0 : Fin 1) (0 : Fin 1) l) := by
  unfold k5_pay245
  exact cast_16 v1501 l

theorem k5_pay246_lane (v1506 : Vec F S1x1x16 .f32) (l : Fin 16) :
    k5_pay246 v1506 (ix1 l) = v1506 (ix3 (0 : Fin 1) (0 : Fin 1) l) := by
  unfold k5_pay246
  exact cast_16 v1506 l

theorem k5_pay247_lane (v1511 : Vec F S1x1x16 .f32) (l : Fin 16) :
    k5_pay247 v1511 (ix1 l) = v1511 (ix3 (0 : Fin 1) (0 : Fin 1) l) := by
  unfold k5_pay247
  exact cast_16 v1511 l

theorem k5_pay248_lane (v1516 : Vec F S1x1x16 .f32) (l : Fin 16) :
    k5_pay248 v1516 (ix1 l) = v1516 (ix3 (0 : Fin 1) (0 : Fin 1) l) := by
  unfold k5_pay248
  exact cast_16 v1516 l

theorem k5_pay249_lane (v1521 : Vec F S1x1x16 .f32) (l : Fin 16) :
    k5_pay249 v1521 (ix1 l) = v1521 (ix3 (0 : Fin 1) (0 : Fin 1) l) := by
  unfold k5_pay249
  exact cast_16 v1521 l

theorem k5_pay250_lane (v1526 : Vec F S1x1x16 .f32) (l : Fin 16) :
    k5_pay250 v1526 (ix1 l) = v1526 (ix3 (0 : Fin 1) (0 : Fin 1) l) := by
  unfold k5_pay250
  exact cast_16 v1526 l

theorem k5_pay251_lane (v1531 : Vec F S1x1x16 .f32) (l : Fin 16) :
    k5_pay251 v1531 (ix1 l) = v1531 (ix3 (0 : Fin 1) (0 : Fin 1) l) := by
  unfold k5_pay251
  exact cast_16 v1531 l

theorem k5_pay252_lane (v1536 : Vec F S1x1x16 .f32) (l : Fin 16) :
    k5_pay252 v1536 (ix1 l) = v1536 (ix3 (0 : Fin 1) (0 : Fin 1) l) := by
  unfold k5_pay252
  exact cast_16 v1536 l

theorem k5_pay253_lane (v1541 : Vec F S1x1x16 .f32) (l : Fin 16) :
    k5_pay253 v1541 (ix1 l) = v1541 (ix3 (0 : Fin 1) (0 : Fin 1) l) := by
  unfold k5_pay253
  exact cast_16 v1541 l

theorem k5_pay254_lane (v1546 : Vec F S1x1x16 .f32) (l : Fin 16) :
    k5_pay254 v1546 (ix1 l) = v1546 (ix3 (0 : Fin 1) (0 : Fin 1) l) := by
  unfold k5_pay254
  exact cast_16 v1546 l

theorem k5_pay255_lane (v1551 : Vec F S1x1x16 .f32) (l : Fin 16) :
    k5_pay255 v1551 (ix1 l) = v1551 (ix3 (0 : Fin 1) (0 : Fin 1) l) := by
  unfold k5_pay255
  exact cast_16 v1551 l

theorem k5_pay256_lane (v1556 : Vec F S1x1x16 .f32) (l : Fin 16) :
    k5_pay256 v1556 (ix1 l) = v1556 (ix3 (0 : Fin 1) (0 : Fin 1) l) := by
  unfold k5_pay256
  exact cast_16 v1556 l

theorem k5_pay257_lane (v1561 : Vec F S1x1x16 .f32) (l : Fin 16) :
    k5_pay257 v1561 (ix1 l) = v1561 (ix3 (0 : Fin 1) (0 : Fin 1) l) := by
  unfold k5_pay257
  exact cast_16 v1561 l

theorem k5_pay258_lane (v1566 : Vec F S1x1x16 .f32) (l : Fin 16) :
    k5_pay258 v1566 (ix1 l) = v1566 (ix3 (0 : Fin 1) (0 : Fin 1) l) := by
  unfold k5_pay258
  exact cast_16 v1566 l

theorem k5_pay259_lane (v1571 : Vec F S1x1x16 .f32) (l : Fin 16) :
    k5_pay259 v1571 (ix1 l) = v1571 (ix3 (0 : Fin 1) (0 : Fin 1) l) := by
  unfold k5_pay259
  exact cast_16 v1571 l

theorem k5_pay260_lane (v1576 : Vec F S1x1x16 .f32) (l : Fin 16) :
    k5_pay260 v1576 (ix1 l) = v1576 (ix3 (0 : Fin 1) (0 : Fin 1) l) := by
  unfold k5_pay260
  exact cast_16 v1576 l

theorem k5_pay261_lane (v1581 : Vec F S1x1x16 .f32) (l : Fin 16) :
    k5_pay261 v1581 (ix1 l) = v1581 (ix3 (0 : Fin 1) (0 : Fin 1) l) := by
  unfold k5_pay261
  exact cast_16 v1581 l

theorem k5_pay262_lane (v1586 : Vec F S1x1x16 .f32) (l : Fin 16) :
    k5_pay262 v1586 (ix1 l) = v1586 (ix3 (0 : Fin 1) (0 : Fin 1) l) := by
  unfold k5_pay262
  exact cast_16 v1586 l

theorem k5_pay263_lane (v1591 : Vec F S1x1x16 .f32) (l : Fin 16) :
    k5_pay263 v1591 (ix1 l) = v1591 (ix3 (0 : Fin 1) (0 : Fin 1) l) := by
  unfold k5_pay263
  exact cast_16 v1591 l

theorem k5_pay264_lane (v1596 : Vec F S1x1x16 .f32) (l : Fin 16) :
    k5_pay264 v1596 (ix1 l) = v1596 (ix3 (0 : Fin 1) (0 : Fin 1) l) := by
  unfold k5_pay264
  exact cast_16 v1596 l

theorem k5_pay265_lane (v1601 : Vec F S1x1x16 .f32) (l : Fin 16) :
    k5_pay265 v1601 (ix1 l) = v1601 (ix3 (0 : Fin 1) (0 : Fin 1) l) := by
  unfold k5_pay265
  exact cast_16 v1601 l

theorem k5_pay266_lane (v1606 : Vec F S1x1x16 .f32) (l : Fin 16) :
    k5_pay266 v1606 (ix1 l) = v1606 (ix3 (0 : Fin 1) (0 : Fin 1) l) := by
  unfold k5_pay266
  exact cast_16 v1606 l

theorem k5_pay267_lane (v1611 : Vec F S1x1x16 .f32) (l : Fin 16) :
    k5_pay267 v1611 (ix1 l) = v1611 (ix3 (0 : Fin 1) (0 : Fin 1) l) := by
  unfold k5_pay267
  exact cast_16 v1611 l

theorem k5_pay268_lane (v1487 : FVec F S16 .f32) (v1492 : FVec F S16 .f32) (l : Fin 16) :
    k5_pay268 v1487 v1492 (ix1 l) = FloatOps.addf (v1487 (ix1 l)) (v1492 (ix1 l)) := by
  unfold k5_pay268
  exact congrArg₂ FloatOps.addf (rfl) (rfl)

theorem k5_pay269_lane (v1497 : FVec F S16 .f32) (v1502 : FVec F S16 .f32) (l : Fin 16) :
    k5_pay269 v1497 v1502 (ix1 l) = FloatOps.addf (v1497 (ix1 l)) (v1502 (ix1 l)) := by
  unfold k5_pay269
  exact congrArg₂ FloatOps.addf (rfl) (rfl)

theorem k5_pay270_lane (v1507 : FVec F S16 .f32) (v1512 : FVec F S16 .f32) (l : Fin 16) :
    k5_pay270 v1507 v1512 (ix1 l) = FloatOps.addf (v1507 (ix1 l)) (v1512 (ix1 l)) := by
  unfold k5_pay270
  exact congrArg₂ FloatOps.addf (rfl) (rfl)

theorem k5_pay271_lane (v1517 : FVec F S16 .f32) (v1522 : FVec F S16 .f32) (l : Fin 16) :
    k5_pay271 v1517 v1522 (ix1 l) = FloatOps.addf (v1517 (ix1 l)) (v1522 (ix1 l)) := by
  unfold k5_pay271
  exact congrArg₂ FloatOps.addf (rfl) (rfl)

theorem k5_pay272_lane (v1527 : FVec F S16 .f32) (v1532 : FVec F S16 .f32) (l : Fin 16) :
    k5_pay272 v1527 v1532 (ix1 l) = FloatOps.addf (v1527 (ix1 l)) (v1532 (ix1 l)) := by
  unfold k5_pay272
  exact congrArg₂ FloatOps.addf (rfl) (rfl)

theorem k5_pay273_lane (v1537 : FVec F S16 .f32) (v1542 : FVec F S16 .f32) (l : Fin 16) :
    k5_pay273 v1537 v1542 (ix1 l) = FloatOps.addf (v1537 (ix1 l)) (v1542 (ix1 l)) := by
  unfold k5_pay273
  exact congrArg₂ FloatOps.addf (rfl) (rfl)

theorem k5_pay274_lane (v1547 : FVec F S16 .f32) (v1552 : FVec F S16 .f32) (l : Fin 16) :
    k5_pay274 v1547 v1552 (ix1 l) = FloatOps.addf (v1547 (ix1 l)) (v1552 (ix1 l)) := by
  unfold k5_pay274
  exact congrArg₂ FloatOps.addf (rfl) (rfl)

theorem k5_pay275_lane (v1557 : FVec F S16 .f32) (v1562 : FVec F S16 .f32) (l : Fin 16) :
    k5_pay275 v1557 v1562 (ix1 l) = FloatOps.addf (v1557 (ix1 l)) (v1562 (ix1 l)) := by
  unfold k5_pay275
  exact congrArg₂ FloatOps.addf (rfl) (rfl)

theorem k5_pay276_lane (v1567 : FVec F S16 .f32) (v1572 : FVec F S16 .f32) (l : Fin 16) :
    k5_pay276 v1567 v1572 (ix1 l) = FloatOps.addf (v1567 (ix1 l)) (v1572 (ix1 l)) := by
  unfold k5_pay276
  exact congrArg₂ FloatOps.addf (rfl) (rfl)

theorem k5_pay277_lane (v1577 : FVec F S16 .f32) (v1582 : FVec F S16 .f32) (l : Fin 16) :
    k5_pay277 v1577 v1582 (ix1 l) = FloatOps.addf (v1577 (ix1 l)) (v1582 (ix1 l)) := by
  unfold k5_pay277
  exact congrArg₂ FloatOps.addf (rfl) (rfl)

theorem k5_pay278_lane (v1587 : FVec F S16 .f32) (v1592 : FVec F S16 .f32) (l : Fin 16) :
    k5_pay278 v1587 v1592 (ix1 l) = FloatOps.addf (v1587 (ix1 l)) (v1592 (ix1 l)) := by
  unfold k5_pay278
  exact congrArg₂ FloatOps.addf (rfl) (rfl)

theorem k5_pay279_lane (v1597 : FVec F S16 .f32) (v1602 : FVec F S16 .f32) (l : Fin 16) :
    k5_pay279 v1597 v1602 (ix1 l) = FloatOps.addf (v1597 (ix1 l)) (v1602 (ix1 l)) := by
  unfold k5_pay279
  exact congrArg₂ FloatOps.addf (rfl) (rfl)

theorem k5_pay280_lane (v1607 : FVec F S16 .f32) (v1612 : FVec F S16 .f32) (l : Fin 16) :
    k5_pay280 v1607 v1612 (ix1 l) = FloatOps.addf (v1607 (ix1 l)) (v1612 (ix1 l)) := by
  unfold k5_pay280
  exact congrArg₂ FloatOps.addf (rfl) (rfl)

theorem k5_pay281_lane (v1616 : Vec F S1x1x16 .f32) (v1621 : Vec F S1x1x16 .f32) (l : Fin 16) :
    k5_pay281 v1616 v1621 (ix1 l) = FloatOps.addf (v1616 (ix3 (0 : Fin 1) (0 : Fin 1) l)) (v1621 (ix3 (0 : Fin 1) (0 : Fin 1) l)) := by
  unfold k5_pay281
  exact congrArg₂ FloatOps.addf (cast_16 v1616 l) (cast_16 v1621 l)

theorem k5_pay282_lane (v1626 : Vec F S1x1x16 .f32) (v1631 : Vec F S1x1x16 .f32) (l : Fin 16) :
    k5_pay282 v1626 v1631 (ix1 l) = FloatOps.addf (v1626 (ix3 (0 : Fin 1) (0 : Fin 1) l)) (v1631 (ix3 (0 : Fin 1) (0 : Fin 1) l)) := by
  unfold k5_pay282
  exact congrArg₂ FloatOps.addf (cast_16 v1626 l) (cast_16 v1631 l)

theorem k5_pay283_lane (v1636 : Vec F S1x1x16 .f32) (v1641 : Vec F S1x1x16 .f32) (l : Fin 16) :
    k5_pay283 v1636 v1641 (ix1 l) = FloatOps.addf (v1636 (ix3 (0 : Fin 1) (0 : Fin 1) l)) (v1641 (ix3 (0 : Fin 1) (0 : Fin 1) l)) := by
  unfold k5_pay283
  exact congrArg₂ FloatOps.addf (cast_16 v1636 l) (cast_16 v1641 l)

theorem k5_pay284_lane (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (l : Fin 16) :
    k5_pay284 v1643 v1644 v1645 v1646 v1647 v1648 v1649 v1650 v1651 v1652 v1653 v1654 v1655 v1656 v1657 v1658 (ix1 l) = FloatOps.addf (FloatOps.addf (FloatOps.addf (FloatOps.addf (v1643 (ix1 l)) (v1644 (ix1 l))) (FloatOps.addf (v1645 (ix1 l)) (v1646 (ix1 l)))) (FloatOps.addf (FloatOps.addf (v1647 (ix1 l)) (v1648 (ix1 l))) (FloatOps.addf (v1649 (ix1 l)) (v1650 (ix1 l))))) (FloatOps.addf (FloatOps.addf (FloatOps.addf (v1651 (ix1 l)) (v1652 (ix1 l))) (FloatOps.addf (v1653 (ix1 l)) (v1654 (ix1 l)))) (FloatOps.addf (FloatOps.addf (v1655 (ix1 l)) (v1656 (ix1 l))) (FloatOps.addf (v1657 (ix1 l)) (v1658 (ix1 l))))) := by
  unfold k5_pay284
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))

theorem k5_pay284_tree (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (w : Fin 32 → F .f32) (l : Fin 16)
    (h_v1643 : v1643 (ix1 l) = FloatOps.addf (w 0) (w 1))
    (h_v1644 : v1644 (ix1 l) = FloatOps.addf (w 2) (w 3))
    (h_v1645 : v1645 (ix1 l) = FloatOps.addf (w 4) (w 5))
    (h_v1646 : v1646 (ix1 l) = FloatOps.addf (w 6) (w 7))
    (h_v1647 : v1647 (ix1 l) = FloatOps.addf (w 8) (w 9))
    (h_v1648 : v1648 (ix1 l) = FloatOps.addf (w 10) (w 11))
    (h_v1649 : v1649 (ix1 l) = FloatOps.addf (w 12) (w 13))
    (h_v1650 : v1650 (ix1 l) = FloatOps.addf (w 14) (w 15))
    (h_v1651 : v1651 (ix1 l) = FloatOps.addf (w 16) (w 17))
    (h_v1652 : v1652 (ix1 l) = FloatOps.addf (w 18) (w 19))
    (h_v1653 : v1653 (ix1 l) = FloatOps.addf (w 20) (w 21))
    (h_v1654 : v1654 (ix1 l) = FloatOps.addf (w 22) (w 23))
    (h_v1655 : v1655 (ix1 l) = FloatOps.addf (w 24) (w 25))
    (h_v1656 : v1656 (ix1 l) = FloatOps.addf (w 26) (w 27))
    (h_v1657 : v1657 (ix1 l) = FloatOps.addf (w 28) (w 29))
    (h_v1658 : v1658 (ix1 l) = FloatOps.addf (w 30) (w 31)) :
    k5_pay284 v1643 v1644 v1645 v1646 v1647 v1648 v1649 v1650 v1651 v1652 v1653 v1654 v1655 v1656 v1657 v1658 (ix1 l) = tree32 w := by
  unfold k5_pay284
  exact congrArg₂ FloatOps.addf (congrArg₂ FloatOps.addf (congrArg₂ FloatOps.addf (congrArg₂ FloatOps.addf (h_v1643) (h_v1644)) (congrArg₂ FloatOps.addf (h_v1645) (h_v1646))) (congrArg₂ FloatOps.addf (congrArg₂ FloatOps.addf (h_v1647) (h_v1648)) (congrArg₂ FloatOps.addf (h_v1649) (h_v1650)))) (congrArg₂ FloatOps.addf (congrArg₂ FloatOps.addf (congrArg₂ FloatOps.addf (h_v1651) (h_v1652)) (congrArg₂ FloatOps.addf (h_v1653) (h_v1654))) (congrArg₂ FloatOps.addf (congrArg₂ FloatOps.addf (h_v1655) (h_v1656)) (congrArg₂ FloatOps.addf (h_v1657) (h_v1658))))

theorem k5_pay285_lane (v114 : Vec F S1x1x16 .f32) (l : Fin 16) :
    k5_pay285 v114 (ix1 l) = v114 (ix3 (0 : Fin 1) (0 : Fin 1) l) := by
  unfold k5_pay285
  exact cast_16 v114 l

theorem k5_pay286_lane (v119 : Vec F S1x1x16 .f32) (l : Fin 16) :
    k5_pay286 v119 (ix1 l) = v119 (ix3 (0 : Fin 1) (0 : Fin 1) l) := by
  unfold k5_pay286
  exact cast_16 v119 l

theorem k5_pay287_lane (v124 : Vec F S1x1x16 .f32) (l : Fin 16) :
    k5_pay287 v124 (ix1 l) = v124 (ix3 (0 : Fin 1) (0 : Fin 1) l) := by
  unfold k5_pay287
  exact cast_16 v124 l

theorem k5_pay288_lane (v129 : Vec F S1x1x16 .f32) (l : Fin 16) :
    k5_pay288 v129 (ix1 l) = v129 (ix3 (0 : Fin 1) (0 : Fin 1) l) := by
  unfold k5_pay288
  exact cast_16 v129 l

theorem k5_pay289_lane (v134 : Vec F S1x1x16 .f32) (l : Fin 16) :
    k5_pay289 v134 (ix1 l) = v134 (ix3 (0 : Fin 1) (0 : Fin 1) l) := by
  unfold k5_pay289
  exact cast_16 v134 l

theorem k5_pay290_lane (v139 : Vec F S1x1x16 .f32) (l : Fin 16) :
    k5_pay290 v139 (ix1 l) = v139 (ix3 (0 : Fin 1) (0 : Fin 1) l) := by
  unfold k5_pay290
  exact cast_16 v139 l

theorem k5_pay291_lane (v144 : Vec F S1x1x16 .f32) (l : Fin 16) :
    k5_pay291 v144 (ix1 l) = v144 (ix3 (0 : Fin 1) (0 : Fin 1) l) := by
  unfold k5_pay291
  exact cast_16 v144 l

theorem k5_pay292_lane (v149 : Vec F S1x1x16 .f32) (l : Fin 16) :
    k5_pay292 v149 (ix1 l) = v149 (ix3 (0 : Fin 1) (0 : Fin 1) l) := by
  unfold k5_pay292
  exact cast_16 v149 l

theorem k5_pay293_lane (v154 : Vec F S1x1x16 .f32) (l : Fin 16) :
    k5_pay293 v154 (ix1 l) = v154 (ix3 (0 : Fin 1) (0 : Fin 1) l) := by
  unfold k5_pay293
  exact cast_16 v154 l

theorem k5_pay294_lane (v159 : Vec F S1x1x16 .f32) (l : Fin 16) :
    k5_pay294 v159 (ix1 l) = v159 (ix3 (0 : Fin 1) (0 : Fin 1) l) := by
  unfold k5_pay294
  exact cast_16 v159 l

theorem k5_pay295_lane (v164 : Vec F S1x1x16 .f32) (l : Fin 16) :
    k5_pay295 v164 (ix1 l) = v164 (ix3 (0 : Fin 1) (0 : Fin 1) l) := by
  unfold k5_pay295
  exact cast_16 v164 l

theorem k5_pay296_lane (v169 : Vec F S1x1x16 .f32) (l : Fin 16) :
    k5_pay296 v169 (ix1 l) = v169 (ix3 (0 : Fin 1) (0 : Fin 1) l) := by
  unfold k5_pay296
  exact cast_16 v169 l

theorem k5_pay297_lane (v174 : Vec F S1x1x16 .f32) (l : Fin 16) :
    k5_pay297 v174 (ix1 l) = v174 (ix3 (0 : Fin 1) (0 : Fin 1) l) := by
  unfold k5_pay297
  exact cast_16 v174 l

theorem k5_pay298_lane (v179 : Vec F S1x1x16 .f32) (l : Fin 16) :
    k5_pay298 v179 (ix1 l) = v179 (ix3 (0 : Fin 1) (0 : Fin 1) l) := by
  unfold k5_pay298
  exact cast_16 v179 l

theorem k5_pay299_lane (v184 : Vec F S1x1x16 .f32) (l : Fin 16) :
    k5_pay299 v184 (ix1 l) = v184 (ix3 (0 : Fin 1) (0 : Fin 1) l) := by
  unfold k5_pay299
  exact cast_16 v184 l

theorem k5_pay300_lane (v189 : Vec F S1x1x16 .f32) (l : Fin 16) :
    k5_pay300 v189 (ix1 l) = v189 (ix3 (0 : Fin 1) (0 : Fin 1) l) := by
  unfold k5_pay300
  exact cast_16 v189 l

theorem k5_pay301_lane (v194 : Vec F S1x1x16 .f32) (l : Fin 16) :
    k5_pay301 v194 (ix1 l) = v194 (ix3 (0 : Fin 1) (0 : Fin 1) l) := by
  unfold k5_pay301
  exact cast_16 v194 l

theorem k5_pay302_lane (v199 : Vec F S1x1x16 .f32) (l : Fin 16) :
    k5_pay302 v199 (ix1 l) = v199 (ix3 (0 : Fin 1) (0 : Fin 1) l) := by
  unfold k5_pay302
  exact cast_16 v199 l

theorem k5_pay303_lane (v204 : Vec F S1x1x16 .f32) (l : Fin 16) :
    k5_pay303 v204 (ix1 l) = v204 (ix3 (0 : Fin 1) (0 : Fin 1) l) := by
  unfold k5_pay303
  exact cast_16 v204 l

theorem k5_pay304_lane (v209 : Vec F S1x1x16 .f32) (l : Fin 16) :
    k5_pay304 v209 (ix1 l) = v209 (ix3 (0 : Fin 1) (0 : Fin 1) l) := by
  unfold k5_pay304
  exact cast_16 v209 l

theorem k5_pay305_lane (v214 : Vec F S1x1x16 .f32) (l : Fin 16) :
    k5_pay305 v214 (ix1 l) = v214 (ix3 (0 : Fin 1) (0 : Fin 1) l) := by
  unfold k5_pay305
  exact cast_16 v214 l

theorem k5_pay306_lane (v219 : Vec F S1x1x16 .f32) (l : Fin 16) :
    k5_pay306 v219 (ix1 l) = v219 (ix3 (0 : Fin 1) (0 : Fin 1) l) := by
  unfold k5_pay306
  exact cast_16 v219 l

theorem k5_pay307_lane (v224 : Vec F S1x1x16 .f32) (l : Fin 16) :
    k5_pay307 v224 (ix1 l) = v224 (ix3 (0 : Fin 1) (0 : Fin 1) l) := by
  unfold k5_pay307
  exact cast_16 v224 l

theorem k5_pay308_lane (v229 : Vec F S1x1x16 .f32) (l : Fin 16) :
    k5_pay308 v229 (ix1 l) = v229 (ix3 (0 : Fin 1) (0 : Fin 1) l) := by
  unfold k5_pay308
  exact cast_16 v229 l

theorem k5_pay309_lane (v234 : Vec F S1x1x16 .f32) (l : Fin 16) :
    k5_pay309 v234 (ix1 l) = v234 (ix3 (0 : Fin 1) (0 : Fin 1) l) := by
  unfold k5_pay309
  exact cast_16 v234 l

theorem k5_pay310_lane (v239 : Vec F S1x1x16 .f32) (l : Fin 16) :
    k5_pay310 v239 (ix1 l) = v239 (ix3 (0 : Fin 1) (0 : Fin 1) l) := by
  unfold k5_pay310
  exact cast_16 v239 l

theorem k5_pay311_lane (v244 : Vec F S1x1x16 .f32) (l : Fin 16) :
    k5_pay311 v244 (ix1 l) = v244 (ix3 (0 : Fin 1) (0 : Fin 1) l) := by
  unfold k5_pay311
  exact cast_16 v244 l

theorem k5_pay312_lane (v249 : Vec F S1x1x16 .f32) (l : Fin 16) :
    k5_pay312 v249 (ix1 l) = v249 (ix3 (0 : Fin 1) (0 : Fin 1) l) := by
  unfold k5_pay312
  exact cast_16 v249 l

theorem k5_pay313_lane (v254 : Vec F S1x1x16 .f32) (l : Fin 16) :
    k5_pay313 v254 (ix1 l) = v254 (ix3 (0 : Fin 1) (0 : Fin 1) l) := by
  unfold k5_pay313
  exact cast_16 v254 l

theorem k5_pay314_lane (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (l : Fin 16) :
    k5_pay314 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = FloatOps.addf (FloatOps.addf (FloatOps.addf (FloatOps.addf (FloatOps.addf (v115 (ix1 l)) (v120 (ix1 l))) (FloatOps.addf (v125 (ix1 l)) (v130 (ix1 l)))) (FloatOps.addf (FloatOps.addf (v135 (ix1 l)) (v140 (ix1 l))) (FloatOps.addf (v145 (ix1 l)) (v150 (ix1 l))))) (FloatOps.addf (FloatOps.addf (FloatOps.addf (v155 (ix1 l)) (v160 (ix1 l))) (FloatOps.addf (v165 (ix1 l)) (v170 (ix1 l)))) (FloatOps.addf (FloatOps.addf (v175 (ix1 l)) (v180 (ix1 l))) (FloatOps.addf (v185 (ix1 l)) (v190 (ix1 l)))))) (FloatOps.addf (FloatOps.addf (FloatOps.addf (FloatOps.addf (v195 (ix1 l)) (v200 (ix1 l))) (FloatOps.addf (v205 (ix1 l)) (v210 (ix1 l)))) (FloatOps.addf (FloatOps.addf (v215 (ix1 l)) (v220 (ix1 l))) (FloatOps.addf (v225 (ix1 l)) (v230 (ix1 l))))) (FloatOps.addf (FloatOps.addf (FloatOps.addf (v235 (ix1 l)) (v240 (ix1 l))) (FloatOps.addf (v245 (ix1 l)) (v250 (ix1 l)))) (FloatOps.addf (FloatOps.addf (v255 (ix1 l)) (v259 (ix3 (0 : Fin 1) (0 : Fin 1) l))) (FloatOps.addf (v264 (ix3 (0 : Fin 1) (0 : Fin 1) l)) (v269 (ix3 (0 : Fin 1) (0 : Fin 1) l)))))) := by
  unfold k5_pay314
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (cast_16 v259 l)) (congrArg₂ FloatOps.addf (cast_16 v264 l) (cast_16 v269 l)))))

theorem k5_pay314_tree (v115 : FVec F S16 .f32) (v120 : FVec F S16 .f32) (v125 : FVec F S16 .f32) (v130 : FVec F S16 .f32) (v135 : FVec F S16 .f32) (v140 : FVec F S16 .f32) (v145 : FVec F S16 .f32) (v150 : FVec F S16 .f32) (v155 : FVec F S16 .f32) (v160 : FVec F S16 .f32) (v165 : FVec F S16 .f32) (v170 : FVec F S16 .f32) (v175 : FVec F S16 .f32) (v180 : FVec F S16 .f32) (v185 : FVec F S16 .f32) (v190 : FVec F S16 .f32) (v195 : FVec F S16 .f32) (v200 : FVec F S16 .f32) (v205 : FVec F S16 .f32) (v210 : FVec F S16 .f32) (v215 : FVec F S16 .f32) (v220 : FVec F S16 .f32) (v225 : FVec F S16 .f32) (v230 : FVec F S16 .f32) (v235 : FVec F S16 .f32) (v240 : FVec F S16 .f32) (v245 : FVec F S16 .f32) (v250 : FVec F S16 .f32) (v255 : FVec F S16 .f32) (v259 : Vec F S1x1x16 .f32) (v264 : Vec F S1x1x16 .f32) (v269 : Vec F S1x1x16 .f32) (w : Fin 32 → F .f32) (l : Fin 16)
    (h_v115 : v115 (ix1 l) = w 0)
    (h_v120 : v120 (ix1 l) = w 1)
    (h_v125 : v125 (ix1 l) = w 2)
    (h_v130 : v130 (ix1 l) = w 3)
    (h_v135 : v135 (ix1 l) = w 4)
    (h_v140 : v140 (ix1 l) = w 5)
    (h_v145 : v145 (ix1 l) = w 6)
    (h_v150 : v150 (ix1 l) = w 7)
    (h_v155 : v155 (ix1 l) = w 8)
    (h_v160 : v160 (ix1 l) = w 9)
    (h_v165 : v165 (ix1 l) = w 10)
    (h_v170 : v170 (ix1 l) = w 11)
    (h_v175 : v175 (ix1 l) = w 12)
    (h_v180 : v180 (ix1 l) = w 13)
    (h_v185 : v185 (ix1 l) = w 14)
    (h_v190 : v190 (ix1 l) = w 15)
    (h_v195 : v195 (ix1 l) = w 16)
    (h_v200 : v200 (ix1 l) = w 17)
    (h_v205 : v205 (ix1 l) = w 18)
    (h_v210 : v210 (ix1 l) = w 19)
    (h_v215 : v215 (ix1 l) = w 20)
    (h_v220 : v220 (ix1 l) = w 21)
    (h_v225 : v225 (ix1 l) = w 22)
    (h_v230 : v230 (ix1 l) = w 23)
    (h_v235 : v235 (ix1 l) = w 24)
    (h_v240 : v240 (ix1 l) = w 25)
    (h_v245 : v245 (ix1 l) = w 26)
    (h_v250 : v250 (ix1 l) = w 27)
    (h_v255 : v255 (ix1 l) = w 28)
    (h_v259 : v259 (ix3 (0 : Fin 1) (0 : Fin 1) l) = w 29)
    (h_v264 : v264 (ix3 (0 : Fin 1) (0 : Fin 1) l) = w 30)
    (h_v269 : v269 (ix3 (0 : Fin 1) (0 : Fin 1) l) = w 31) :
    k5_pay314 v115 v120 v125 v130 v135 v140 v145 v150 v155 v160 v165 v170 v175 v180 v185 v190 v195 v200 v205 v210 v215 v220 v225 v230 v235 v240 v245 v250 v255 v259 v264 v269 (ix3 (0 : Fin 1) (0 : Fin 1) l) = tree32 w := by
  unfold k5_pay314
  refine (cast_116 _ l).trans ?_
  exact congrArg₂ FloatOps.addf (congrArg₂ FloatOps.addf (congrArg₂ FloatOps.addf (congrArg₂ FloatOps.addf (congrArg₂ FloatOps.addf (h_v115) (h_v120)) (congrArg₂ FloatOps.addf (h_v125) (h_v130))) (congrArg₂ FloatOps.addf (congrArg₂ FloatOps.addf (h_v135) (h_v140)) (congrArg₂ FloatOps.addf (h_v145) (h_v150)))) (congrArg₂ FloatOps.addf (congrArg₂ FloatOps.addf (congrArg₂ FloatOps.addf (h_v155) (h_v160)) (congrArg₂ FloatOps.addf (h_v165) (h_v170))) (congrArg₂ FloatOps.addf (congrArg₂ FloatOps.addf (h_v175) (h_v180)) (congrArg₂ FloatOps.addf (h_v185) (h_v190))))) (congrArg₂ FloatOps.addf (congrArg₂ FloatOps.addf (congrArg₂ FloatOps.addf (congrArg₂ FloatOps.addf (h_v195) (h_v200)) (congrArg₂ FloatOps.addf (h_v205) (h_v210))) (congrArg₂ FloatOps.addf (congrArg₂ FloatOps.addf (h_v215) (h_v220)) (congrArg₂ FloatOps.addf (h_v225) (h_v230)))) (congrArg₂ FloatOps.addf (congrArg₂ FloatOps.addf (congrArg₂ FloatOps.addf (h_v235) (h_v240)) (congrArg₂ FloatOps.addf (h_v245) (h_v250))) (congrArg₂ FloatOps.addf (congrArg₂ FloatOps.addf (h_v255) ((cast_16 v259 l).trans h_v259)) (congrArg₂ FloatOps.addf ((cast_16 v264 l).trans h_v264) ((cast_16 v269 l).trans h_v269)))))

theorem k5_pay315_lane (v310 : Vec F S1x1x16 .f32) (l : Fin 16) :
    k5_pay315 v310 (ix1 l) = v310 (ix3 (0 : Fin 1) (0 : Fin 1) l) := by
  unfold k5_pay315
  exact cast_16 v310 l

theorem k5_pay316_lane (v315 : Vec F S1x1x16 .f32) (l : Fin 16) :
    k5_pay316 v315 (ix1 l) = v315 (ix3 (0 : Fin 1) (0 : Fin 1) l) := by
  unfold k5_pay316
  exact cast_16 v315 l

theorem k5_pay317_lane (v320 : Vec F S1x1x16 .f32) (l : Fin 16) :
    k5_pay317 v320 (ix1 l) = v320 (ix3 (0 : Fin 1) (0 : Fin 1) l) := by
  unfold k5_pay317
  exact cast_16 v320 l

theorem k5_pay318_lane (v325 : Vec F S1x1x16 .f32) (l : Fin 16) :
    k5_pay318 v325 (ix1 l) = v325 (ix3 (0 : Fin 1) (0 : Fin 1) l) := by
  unfold k5_pay318
  exact cast_16 v325 l

theorem k5_pay319_lane (v330 : Vec F S1x1x16 .f32) (l : Fin 16) :
    k5_pay319 v330 (ix1 l) = v330 (ix3 (0 : Fin 1) (0 : Fin 1) l) := by
  unfold k5_pay319
  exact cast_16 v330 l

theorem k5_pay320_lane (v335 : Vec F S1x1x16 .f32) (l : Fin 16) :
    k5_pay320 v335 (ix1 l) = v335 (ix3 (0 : Fin 1) (0 : Fin 1) l) := by
  unfold k5_pay320
  exact cast_16 v335 l

theorem k5_pay321_lane (v340 : Vec F S1x1x16 .f32) (l : Fin 16) :
    k5_pay321 v340 (ix1 l) = v340 (ix3 (0 : Fin 1) (0 : Fin 1) l) := by
  unfold k5_pay321
  exact cast_16 v340 l

theorem k5_pay322_lane (v345 : Vec F S1x1x16 .f32) (l : Fin 16) :
    k5_pay322 v345 (ix1 l) = v345 (ix3 (0 : Fin 1) (0 : Fin 1) l) := by
  unfold k5_pay322
  exact cast_16 v345 l

theorem k5_pay323_lane (v350 : Vec F S1x1x16 .f32) (l : Fin 16) :
    k5_pay323 v350 (ix1 l) = v350 (ix3 (0 : Fin 1) (0 : Fin 1) l) := by
  unfold k5_pay323
  exact cast_16 v350 l

theorem k5_pay324_lane (v355 : Vec F S1x1x16 .f32) (l : Fin 16) :
    k5_pay324 v355 (ix1 l) = v355 (ix3 (0 : Fin 1) (0 : Fin 1) l) := by
  unfold k5_pay324
  exact cast_16 v355 l

theorem k5_pay325_lane (v360 : Vec F S1x1x16 .f32) (l : Fin 16) :
    k5_pay325 v360 (ix1 l) = v360 (ix3 (0 : Fin 1) (0 : Fin 1) l) := by
  unfold k5_pay325
  exact cast_16 v360 l

theorem k5_pay326_lane (v365 : Vec F S1x1x16 .f32) (l : Fin 16) :
    k5_pay326 v365 (ix1 l) = v365 (ix3 (0 : Fin 1) (0 : Fin 1) l) := by
  unfold k5_pay326
  exact cast_16 v365 l

theorem k5_pay327_lane (v370 : Vec F S1x1x16 .f32) (l : Fin 16) :
    k5_pay327 v370 (ix1 l) = v370 (ix3 (0 : Fin 1) (0 : Fin 1) l) := by
  unfold k5_pay327
  exact cast_16 v370 l

theorem k5_pay328_lane (v375 : Vec F S1x1x16 .f32) (l : Fin 16) :
    k5_pay328 v375 (ix1 l) = v375 (ix3 (0 : Fin 1) (0 : Fin 1) l) := by
  unfold k5_pay328
  exact cast_16 v375 l

theorem k5_pay329_lane (v380 : Vec F S1x1x16 .f32) (l : Fin 16) :
    k5_pay329 v380 (ix1 l) = v380 (ix3 (0 : Fin 1) (0 : Fin 1) l) := by
  unfold k5_pay329
  exact cast_16 v380 l

theorem k5_pay330_lane (v385 : Vec F S1x1x16 .f32) (l : Fin 16) :
    k5_pay330 v385 (ix1 l) = v385 (ix3 (0 : Fin 1) (0 : Fin 1) l) := by
  unfold k5_pay330
  exact cast_16 v385 l

theorem k5_pay331_lane (v390 : Vec F S1x1x16 .f32) (l : Fin 16) :
    k5_pay331 v390 (ix1 l) = v390 (ix3 (0 : Fin 1) (0 : Fin 1) l) := by
  unfold k5_pay331
  exact cast_16 v390 l

theorem k5_pay332_lane (v395 : Vec F S1x1x16 .f32) (l : Fin 16) :
    k5_pay332 v395 (ix1 l) = v395 (ix3 (0 : Fin 1) (0 : Fin 1) l) := by
  unfold k5_pay332
  exact cast_16 v395 l

theorem k5_pay333_lane (v400 : Vec F S1x1x16 .f32) (l : Fin 16) :
    k5_pay333 v400 (ix1 l) = v400 (ix3 (0 : Fin 1) (0 : Fin 1) l) := by
  unfold k5_pay333
  exact cast_16 v400 l

theorem k5_pay334_lane (v405 : Vec F S1x1x16 .f32) (l : Fin 16) :
    k5_pay334 v405 (ix1 l) = v405 (ix3 (0 : Fin 1) (0 : Fin 1) l) := by
  unfold k5_pay334
  exact cast_16 v405 l

theorem k5_pay335_lane (v410 : Vec F S1x1x16 .f32) (l : Fin 16) :
    k5_pay335 v410 (ix1 l) = v410 (ix3 (0 : Fin 1) (0 : Fin 1) l) := by
  unfold k5_pay335
  exact cast_16 v410 l

theorem k5_pay336_lane (v415 : Vec F S1x1x16 .f32) (l : Fin 16) :
    k5_pay336 v415 (ix1 l) = v415 (ix3 (0 : Fin 1) (0 : Fin 1) l) := by
  unfold k5_pay336
  exact cast_16 v415 l

theorem k5_pay337_lane (v420 : Vec F S1x1x16 .f32) (l : Fin 16) :
    k5_pay337 v420 (ix1 l) = v420 (ix3 (0 : Fin 1) (0 : Fin 1) l) := by
  unfold k5_pay337
  exact cast_16 v420 l

theorem k5_pay338_lane (v425 : Vec F S1x1x16 .f32) (l : Fin 16) :
    k5_pay338 v425 (ix1 l) = v425 (ix3 (0 : Fin 1) (0 : Fin 1) l) := by
  unfold k5_pay338
  exact cast_16 v425 l

theorem k5_pay339_lane (v430 : Vec F S1x1x16 .f32) (l : Fin 16) :
    k5_pay339 v430 (ix1 l) = v430 (ix3 (0 : Fin 1) (0 : Fin 1) l) := by
  unfold k5_pay339
  exact cast_16 v430 l

theorem k5_pay340_lane (v435 : Vec F S1x1x16 .f32) (l : Fin 16) :
    k5_pay340 v435 (ix1 l) = v435 (ix3 (0 : Fin 1) (0 : Fin 1) l) := by
  unfold k5_pay340
  exact cast_16 v435 l

theorem k5_pay341_lane (v440 : Vec F S1x1x16 .f32) (l : Fin 16) :
    k5_pay341 v440 (ix1 l) = v440 (ix3 (0 : Fin 1) (0 : Fin 1) l) := by
  unfold k5_pay341
  exact cast_16 v440 l

theorem k5_pay342_lane (v445 : Vec F S1x1x16 .f32) (l : Fin 16) :
    k5_pay342 v445 (ix1 l) = v445 (ix3 (0 : Fin 1) (0 : Fin 1) l) := by
  unfold k5_pay342
  exact cast_16 v445 l

theorem k5_pay343_lane (v450 : Vec F S1x1x16 .f32) (l : Fin 16) :
    k5_pay343 v450 (ix1 l) = v450 (ix3 (0 : Fin 1) (0 : Fin 1) l) := by
  unfold k5_pay343
  exact cast_16 v450 l

theorem k5_pay344_lane (v455 : Vec F S1x1x16 .f32) (l : Fin 16) :
    k5_pay344 v455 (ix1 l) = v455 (ix3 (0 : Fin 1) (0 : Fin 1) l) := by
  unfold k5_pay344
  exact cast_16 v455 l

theorem k5_pay345_lane (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (l : Fin 16) :
    k5_pay345 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = FloatOps.addf (FloatOps.addf (FloatOps.addf (FloatOps.addf (FloatOps.addf (v311 (ix1 l)) (v316 (ix1 l))) (FloatOps.addf (v321 (ix1 l)) (v326 (ix1 l)))) (FloatOps.addf (FloatOps.addf (v331 (ix1 l)) (v336 (ix1 l))) (FloatOps.addf (v341 (ix1 l)) (v346 (ix1 l))))) (FloatOps.addf (FloatOps.addf (FloatOps.addf (v351 (ix1 l)) (v356 (ix1 l))) (FloatOps.addf (v361 (ix1 l)) (v366 (ix1 l)))) (FloatOps.addf (FloatOps.addf (v371 (ix1 l)) (v376 (ix1 l))) (FloatOps.addf (v381 (ix1 l)) (v386 (ix1 l)))))) (FloatOps.addf (FloatOps.addf (FloatOps.addf (FloatOps.addf (v391 (ix1 l)) (v396 (ix1 l))) (FloatOps.addf (v401 (ix1 l)) (v406 (ix1 l)))) (FloatOps.addf (FloatOps.addf (v411 (ix1 l)) (v416 (ix1 l))) (FloatOps.addf (v421 (ix1 l)) (v426 (ix1 l))))) (FloatOps.addf (FloatOps.addf (FloatOps.addf (v431 (ix1 l)) (v436 (ix1 l))) (FloatOps.addf (v441 (ix1 l)) (v446 (ix1 l)))) (FloatOps.addf (FloatOps.addf (v451 (ix1 l)) (v456 (ix1 l))) (FloatOps.addf (v460 (ix3 (0 : Fin 1) (0 : Fin 1) l)) (v465 (ix3 (0 : Fin 1) (0 : Fin 1) l)))))) := by
  unfold k5_pay345
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v460 l) (cast_16 v465 l)))))

theorem k5_pay345_tree (v311 : FVec F S16 .f32) (v316 : FVec F S16 .f32) (v321 : FVec F S16 .f32) (v326 : FVec F S16 .f32) (v331 : FVec F S16 .f32) (v336 : FVec F S16 .f32) (v341 : FVec F S16 .f32) (v346 : FVec F S16 .f32) (v351 : FVec F S16 .f32) (v356 : FVec F S16 .f32) (v361 : FVec F S16 .f32) (v366 : FVec F S16 .f32) (v371 : FVec F S16 .f32) (v376 : FVec F S16 .f32) (v381 : FVec F S16 .f32) (v386 : FVec F S16 .f32) (v391 : FVec F S16 .f32) (v396 : FVec F S16 .f32) (v401 : FVec F S16 .f32) (v406 : FVec F S16 .f32) (v411 : FVec F S16 .f32) (v416 : FVec F S16 .f32) (v421 : FVec F S16 .f32) (v426 : FVec F S16 .f32) (v431 : FVec F S16 .f32) (v436 : FVec F S16 .f32) (v441 : FVec F S16 .f32) (v446 : FVec F S16 .f32) (v451 : FVec F S16 .f32) (v456 : FVec F S16 .f32) (v460 : Vec F S1x1x16 .f32) (v465 : Vec F S1x1x16 .f32) (w : Fin 32 → F .f32) (l : Fin 16)
    (h_v311 : v311 (ix1 l) = w 0)
    (h_v316 : v316 (ix1 l) = w 1)
    (h_v321 : v321 (ix1 l) = w 2)
    (h_v326 : v326 (ix1 l) = w 3)
    (h_v331 : v331 (ix1 l) = w 4)
    (h_v336 : v336 (ix1 l) = w 5)
    (h_v341 : v341 (ix1 l) = w 6)
    (h_v346 : v346 (ix1 l) = w 7)
    (h_v351 : v351 (ix1 l) = w 8)
    (h_v356 : v356 (ix1 l) = w 9)
    (h_v361 : v361 (ix1 l) = w 10)
    (h_v366 : v366 (ix1 l) = w 11)
    (h_v371 : v371 (ix1 l) = w 12)
    (h_v376 : v376 (ix1 l) = w 13)
    (h_v381 : v381 (ix1 l) = w 14)
    (h_v386 : v386 (ix1 l) = w 15)
    (h_v391 : v391 (ix1 l) = w 16)
    (h_v396 : v396 (ix1 l) = w 17)
    (h_v401 : v401 (ix1 l) = w 18)
    (h_v406 : v406 (ix1 l) = w 19)
    (h_v411 : v411 (ix1 l) = w 20)
    (h_v416 : v416 (ix1 l) = w 21)
    (h_v421 : v421 (ix1 l) = w 22)
    (h_v426 : v426 (ix1 l) = w 23)
    (h_v431 : v431 (ix1 l) = w 24)
    (h_v436 : v436 (ix1 l) = w 25)
    (h_v441 : v441 (ix1 l) = w 26)
    (h_v446 : v446 (ix1 l) = w 27)
    (h_v451 : v451 (ix1 l) = w 28)
    (h_v456 : v456 (ix1 l) = w 29)
    (h_v460 : v460 (ix3 (0 : Fin 1) (0 : Fin 1) l) = w 30)
    (h_v465 : v465 (ix3 (0 : Fin 1) (0 : Fin 1) l) = w 31) :
    k5_pay345 v311 v316 v321 v326 v331 v336 v341 v346 v351 v356 v361 v366 v371 v376 v381 v386 v391 v396 v401 v406 v411 v416 v421 v426 v431 v436 v441 v446 v451 v456 v460 v465 (ix3 (0 : Fin 1) (0 : Fin 1) l) = tree32 w := by
  unfold k5_pay345
  refine (cast_116 _ l).trans ?_
  exact congrArg₂ FloatOps.addf (congrArg₂ FloatOps.addf (congrArg₂ FloatOps.addf (congrArg₂ FloatOps.addf (congrArg₂ FloatOps.addf (h_v311) (h_v316)) (congrArg₂ FloatOps.addf (h_v321) (h_v326))) (congrArg₂ FloatOps.addf (congrArg₂ FloatOps.addf (h_v331) (h_v336)) (congrArg₂ FloatOps.addf (h_v341) (h_v346)))) (congrArg₂ FloatOps.addf (congrArg₂ FloatOps.addf (congrArg₂ FloatOps.addf (h_v351) (h_v356)) (congrArg₂ FloatOps.addf (h_v361) (h_v366))) (congrArg₂ FloatOps.addf (congrArg₂ FloatOps.addf (h_v371) (h_v376)) (congrArg₂ FloatOps.addf (h_v381) (h_v386))))) (congrArg₂ FloatOps.addf (congrArg₂ FloatOps.addf (congrArg₂ FloatOps.addf (congrArg₂ FloatOps.addf (h_v391) (h_v396)) (congrArg₂ FloatOps.addf (h_v401) (h_v406))) (congrArg₂ FloatOps.addf (congrArg₂ FloatOps.addf (h_v411) (h_v416)) (congrArg₂ FloatOps.addf (h_v421) (h_v426)))) (congrArg₂ FloatOps.addf (congrArg₂ FloatOps.addf (congrArg₂ FloatOps.addf (h_v431) (h_v436)) (congrArg₂ FloatOps.addf (h_v441) (h_v446))) (congrArg₂ FloatOps.addf (congrArg₂ FloatOps.addf (h_v451) (h_v456)) (congrArg₂ FloatOps.addf ((cast_16 v460 l).trans h_v460) ((cast_16 v465 l).trans h_v465)))))

theorem k5_pay346_lane (v506 : Vec F S1x1x16 .f32) (l : Fin 16) :
    k5_pay346 v506 (ix1 l) = v506 (ix3 (0 : Fin 1) (0 : Fin 1) l) := by
  unfold k5_pay346
  exact cast_16 v506 l

theorem k5_pay347_lane (v511 : Vec F S1x1x16 .f32) (l : Fin 16) :
    k5_pay347 v511 (ix1 l) = v511 (ix3 (0 : Fin 1) (0 : Fin 1) l) := by
  unfold k5_pay347
  exact cast_16 v511 l

theorem k5_pay348_lane (v516 : Vec F S1x1x16 .f32) (l : Fin 16) :
    k5_pay348 v516 (ix1 l) = v516 (ix3 (0 : Fin 1) (0 : Fin 1) l) := by
  unfold k5_pay348
  exact cast_16 v516 l

theorem k5_pay349_lane (v521 : Vec F S1x1x16 .f32) (l : Fin 16) :
    k5_pay349 v521 (ix1 l) = v521 (ix3 (0 : Fin 1) (0 : Fin 1) l) := by
  unfold k5_pay349
  exact cast_16 v521 l

theorem k5_pay350_lane (v526 : Vec F S1x1x16 .f32) (l : Fin 16) :
    k5_pay350 v526 (ix1 l) = v526 (ix3 (0 : Fin 1) (0 : Fin 1) l) := by
  unfold k5_pay350
  exact cast_16 v526 l

theorem k5_pay351_lane (v531 : Vec F S1x1x16 .f32) (l : Fin 16) :
    k5_pay351 v531 (ix1 l) = v531 (ix3 (0 : Fin 1) (0 : Fin 1) l) := by
  unfold k5_pay351
  exact cast_16 v531 l

theorem k5_pay352_lane (v536 : Vec F S1x1x16 .f32) (l : Fin 16) :
    k5_pay352 v536 (ix1 l) = v536 (ix3 (0 : Fin 1) (0 : Fin 1) l) := by
  unfold k5_pay352
  exact cast_16 v536 l

theorem k5_pay353_lane (v541 : Vec F S1x1x16 .f32) (l : Fin 16) :
    k5_pay353 v541 (ix1 l) = v541 (ix3 (0 : Fin 1) (0 : Fin 1) l) := by
  unfold k5_pay353
  exact cast_16 v541 l

theorem k5_pay354_lane (v546 : Vec F S1x1x16 .f32) (l : Fin 16) :
    k5_pay354 v546 (ix1 l) = v546 (ix3 (0 : Fin 1) (0 : Fin 1) l) := by
  unfold k5_pay354
  exact cast_16 v546 l

theorem k5_pay355_lane (v551 : Vec F S1x1x16 .f32) (l : Fin 16) :
    k5_pay355 v551 (ix1 l) = v551 (ix3 (0 : Fin 1) (0 : Fin 1) l) := by
  unfold k5_pay355
  exact cast_16 v551 l

theorem k5_pay356_lane (v556 : Vec F S1x1x16 .f32) (l : Fin 16) :
    k5_pay356 v556 (ix1 l) = v556 (ix3 (0 : Fin 1) (0 : Fin 1) l) := by
  unfold k5_pay356
  exact cast_16 v556 l

theorem k5_pay357_lane (v561 : Vec F S1x1x16 .f32) (l : Fin 16) :
    k5_pay357 v561 (ix1 l) = v561 (ix3 (0 : Fin 1) (0 : Fin 1) l) := by
  unfold k5_pay357
  exact cast_16 v561 l

theorem k5_pay358_lane (v566 : Vec F S1x1x16 .f32) (l : Fin 16) :
    k5_pay358 v566 (ix1 l) = v566 (ix3 (0 : Fin 1) (0 : Fin 1) l) := by
  unfold k5_pay358
  exact cast_16 v566 l

theorem k5_pay359_lane (v571 : Vec F S1x1x16 .f32) (l : Fin 16) :
    k5_pay359 v571 (ix1 l) = v571 (ix3 (0 : Fin 1) (0 : Fin 1) l) := by
  unfold k5_pay359
  exact cast_16 v571 l

theorem k5_pay360_lane (v576 : Vec F S1x1x16 .f32) (l : Fin 16) :
    k5_pay360 v576 (ix1 l) = v576 (ix3 (0 : Fin 1) (0 : Fin 1) l) := by
  unfold k5_pay360
  exact cast_16 v576 l

theorem k5_pay361_lane (v581 : Vec F S1x1x16 .f32) (l : Fin 16) :
    k5_pay361 v581 (ix1 l) = v581 (ix3 (0 : Fin 1) (0 : Fin 1) l) := by
  unfold k5_pay361
  exact cast_16 v581 l

theorem k5_pay362_lane (v586 : Vec F S1x1x16 .f32) (l : Fin 16) :
    k5_pay362 v586 (ix1 l) = v586 (ix3 (0 : Fin 1) (0 : Fin 1) l) := by
  unfold k5_pay362
  exact cast_16 v586 l

theorem k5_pay363_lane (v591 : Vec F S1x1x16 .f32) (l : Fin 16) :
    k5_pay363 v591 (ix1 l) = v591 (ix3 (0 : Fin 1) (0 : Fin 1) l) := by
  unfold k5_pay363
  exact cast_16 v591 l

theorem k5_pay364_lane (v596 : Vec F S1x1x16 .f32) (l : Fin 16) :
    k5_pay364 v596 (ix1 l) = v596 (ix3 (0 : Fin 1) (0 : Fin 1) l) := by
  unfold k5_pay364
  exact cast_16 v596 l

theorem k5_pay365_lane (v601 : Vec F S1x1x16 .f32) (l : Fin 16) :
    k5_pay365 v601 (ix1 l) = v601 (ix3 (0 : Fin 1) (0 : Fin 1) l) := by
  unfold k5_pay365
  exact cast_16 v601 l

theorem k5_pay366_lane (v606 : Vec F S1x1x16 .f32) (l : Fin 16) :
    k5_pay366 v606 (ix1 l) = v606 (ix3 (0 : Fin 1) (0 : Fin 1) l) := by
  unfold k5_pay366
  exact cast_16 v606 l

theorem k5_pay367_lane (v611 : Vec F S1x1x16 .f32) (l : Fin 16) :
    k5_pay367 v611 (ix1 l) = v611 (ix3 (0 : Fin 1) (0 : Fin 1) l) := by
  unfold k5_pay367
  exact cast_16 v611 l

theorem k5_pay368_lane (v616 : Vec F S1x1x16 .f32) (l : Fin 16) :
    k5_pay368 v616 (ix1 l) = v616 (ix3 (0 : Fin 1) (0 : Fin 1) l) := by
  unfold k5_pay368
  exact cast_16 v616 l

theorem k5_pay369_lane (v621 : Vec F S1x1x16 .f32) (l : Fin 16) :
    k5_pay369 v621 (ix1 l) = v621 (ix3 (0 : Fin 1) (0 : Fin 1) l) := by
  unfold k5_pay369
  exact cast_16 v621 l

theorem k5_pay370_lane (v626 : Vec F S1x1x16 .f32) (l : Fin 16) :
    k5_pay370 v626 (ix1 l) = v626 (ix3 (0 : Fin 1) (0 : Fin 1) l) := by
  unfold k5_pay370
  exact cast_16 v626 l

theorem k5_pay371_lane (v631 : Vec F S1x1x16 .f32) (l : Fin 16) :
    k5_pay371 v631 (ix1 l) = v631 (ix3 (0 : Fin 1) (0 : Fin 1) l) := by
  unfold k5_pay371
  exact cast_16 v631 l

theorem k5_pay372_lane (v636 : Vec F S1x1x16 .f32) (l : Fin 16) :
    k5_pay372 v636 (ix1 l) = v636 (ix3 (0 : Fin 1) (0 : Fin 1) l) := by
  unfold k5_pay372
  exact cast_16 v636 l

theorem k5_pay373_lane (v641 : Vec F S1x1x16 .f32) (l : Fin 16) :
    k5_pay373 v641 (ix1 l) = v641 (ix3 (0 : Fin 1) (0 : Fin 1) l) := by
  unfold k5_pay373
  exact cast_16 v641 l

theorem k5_pay374_lane (v646 : Vec F S1x1x16 .f32) (l : Fin 16) :
    k5_pay374 v646 (ix1 l) = v646 (ix3 (0 : Fin 1) (0 : Fin 1) l) := by
  unfold k5_pay374
  exact cast_16 v646 l

theorem k5_pay375_lane (v651 : Vec F S1x1x16 .f32) (l : Fin 16) :
    k5_pay375 v651 (ix1 l) = v651 (ix3 (0 : Fin 1) (0 : Fin 1) l) := by
  unfold k5_pay375
  exact cast_16 v651 l

theorem k5_pay376_lane (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (l : Fin 16) :
    k5_pay376 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = FloatOps.addf (FloatOps.addf (FloatOps.addf (FloatOps.addf (FloatOps.addf (v507 (ix1 l)) (v512 (ix1 l))) (FloatOps.addf (v517 (ix1 l)) (v522 (ix1 l)))) (FloatOps.addf (FloatOps.addf (v527 (ix1 l)) (v532 (ix1 l))) (FloatOps.addf (v537 (ix1 l)) (v542 (ix1 l))))) (FloatOps.addf (FloatOps.addf (FloatOps.addf (v547 (ix1 l)) (v552 (ix1 l))) (FloatOps.addf (v557 (ix1 l)) (v562 (ix1 l)))) (FloatOps.addf (FloatOps.addf (v567 (ix1 l)) (v572 (ix1 l))) (FloatOps.addf (v577 (ix1 l)) (v582 (ix1 l)))))) (FloatOps.addf (FloatOps.addf (FloatOps.addf (FloatOps.addf (v587 (ix1 l)) (v592 (ix1 l))) (FloatOps.addf (v597 (ix1 l)) (v602 (ix1 l)))) (FloatOps.addf (FloatOps.addf (v607 (ix1 l)) (v612 (ix1 l))) (FloatOps.addf (v617 (ix1 l)) (v622 (ix1 l))))) (FloatOps.addf (FloatOps.addf (FloatOps.addf (v627 (ix1 l)) (v632 (ix1 l))) (FloatOps.addf (v637 (ix1 l)) (v642 (ix1 l)))) (FloatOps.addf (FloatOps.addf (v647 (ix1 l)) (v652 (ix1 l))) (FloatOps.addf (v656 (ix3 (0 : Fin 1) (0 : Fin 1) l)) (v661 (ix3 (0 : Fin 1) (0 : Fin 1) l)))))) := by
  unfold k5_pay376
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (cast_16 v656 l) (cast_16 v661 l)))))

theorem k5_pay376_tree (v507 : FVec F S16 .f32) (v512 : FVec F S16 .f32) (v517 : FVec F S16 .f32) (v522 : FVec F S16 .f32) (v527 : FVec F S16 .f32) (v532 : FVec F S16 .f32) (v537 : FVec F S16 .f32) (v542 : FVec F S16 .f32) (v547 : FVec F S16 .f32) (v552 : FVec F S16 .f32) (v557 : FVec F S16 .f32) (v562 : FVec F S16 .f32) (v567 : FVec F S16 .f32) (v572 : FVec F S16 .f32) (v577 : FVec F S16 .f32) (v582 : FVec F S16 .f32) (v587 : FVec F S16 .f32) (v592 : FVec F S16 .f32) (v597 : FVec F S16 .f32) (v602 : FVec F S16 .f32) (v607 : FVec F S16 .f32) (v612 : FVec F S16 .f32) (v617 : FVec F S16 .f32) (v622 : FVec F S16 .f32) (v627 : FVec F S16 .f32) (v632 : FVec F S16 .f32) (v637 : FVec F S16 .f32) (v642 : FVec F S16 .f32) (v647 : FVec F S16 .f32) (v652 : FVec F S16 .f32) (v656 : Vec F S1x1x16 .f32) (v661 : Vec F S1x1x16 .f32) (w : Fin 32 → F .f32) (l : Fin 16)
    (h_v507 : v507 (ix1 l) = w 0)
    (h_v512 : v512 (ix1 l) = w 1)
    (h_v517 : v517 (ix1 l) = w 2)
    (h_v522 : v522 (ix1 l) = w 3)
    (h_v527 : v527 (ix1 l) = w 4)
    (h_v532 : v532 (ix1 l) = w 5)
    (h_v537 : v537 (ix1 l) = w 6)
    (h_v542 : v542 (ix1 l) = w 7)
    (h_v547 : v547 (ix1 l) = w 8)
    (h_v552 : v552 (ix1 l) = w 9)
    (h_v557 : v557 (ix1 l) = w 10)
    (h_v562 : v562 (ix1 l) = w 11)
    (h_v567 : v567 (ix1 l) = w 12)
    (h_v572 : v572 (ix1 l) = w 13)
    (h_v577 : v577 (ix1 l) = w 14)
    (h_v582 : v582 (ix1 l) = w 15)
    (h_v587 : v587 (ix1 l) = w 16)
    (h_v592 : v592 (ix1 l) = w 17)
    (h_v597 : v597 (ix1 l) = w 18)
    (h_v602 : v602 (ix1 l) = w 19)
    (h_v607 : v607 (ix1 l) = w 20)
    (h_v612 : v612 (ix1 l) = w 21)
    (h_v617 : v617 (ix1 l) = w 22)
    (h_v622 : v622 (ix1 l) = w 23)
    (h_v627 : v627 (ix1 l) = w 24)
    (h_v632 : v632 (ix1 l) = w 25)
    (h_v637 : v637 (ix1 l) = w 26)
    (h_v642 : v642 (ix1 l) = w 27)
    (h_v647 : v647 (ix1 l) = w 28)
    (h_v652 : v652 (ix1 l) = w 29)
    (h_v656 : v656 (ix3 (0 : Fin 1) (0 : Fin 1) l) = w 30)
    (h_v661 : v661 (ix3 (0 : Fin 1) (0 : Fin 1) l) = w 31) :
    k5_pay376 v507 v512 v517 v522 v527 v532 v537 v542 v547 v552 v557 v562 v567 v572 v577 v582 v587 v592 v597 v602 v607 v612 v617 v622 v627 v632 v637 v642 v647 v652 v656 v661 (ix3 (0 : Fin 1) (0 : Fin 1) l) = tree32 w := by
  unfold k5_pay376
  refine (cast_116 _ l).trans ?_
  exact congrArg₂ FloatOps.addf (congrArg₂ FloatOps.addf (congrArg₂ FloatOps.addf (congrArg₂ FloatOps.addf (congrArg₂ FloatOps.addf (h_v507) (h_v512)) (congrArg₂ FloatOps.addf (h_v517) (h_v522))) (congrArg₂ FloatOps.addf (congrArg₂ FloatOps.addf (h_v527) (h_v532)) (congrArg₂ FloatOps.addf (h_v537) (h_v542)))) (congrArg₂ FloatOps.addf (congrArg₂ FloatOps.addf (congrArg₂ FloatOps.addf (h_v547) (h_v552)) (congrArg₂ FloatOps.addf (h_v557) (h_v562))) (congrArg₂ FloatOps.addf (congrArg₂ FloatOps.addf (h_v567) (h_v572)) (congrArg₂ FloatOps.addf (h_v577) (h_v582))))) (congrArg₂ FloatOps.addf (congrArg₂ FloatOps.addf (congrArg₂ FloatOps.addf (congrArg₂ FloatOps.addf (h_v587) (h_v592)) (congrArg₂ FloatOps.addf (h_v597) (h_v602))) (congrArg₂ FloatOps.addf (congrArg₂ FloatOps.addf (h_v607) (h_v612)) (congrArg₂ FloatOps.addf (h_v617) (h_v622)))) (congrArg₂ FloatOps.addf (congrArg₂ FloatOps.addf (congrArg₂ FloatOps.addf (h_v627) (h_v632)) (congrArg₂ FloatOps.addf (h_v637) (h_v642))) (congrArg₂ FloatOps.addf (congrArg₂ FloatOps.addf (h_v647) (h_v652)) (congrArg₂ FloatOps.addf ((cast_16 v656 l).trans h_v656) ((cast_16 v661 l).trans h_v661)))))

theorem k5_pay377_lane (v702 : Vec F S1x1x16 .f32) (l : Fin 16) :
    k5_pay377 v702 (ix1 l) = v702 (ix3 (0 : Fin 1) (0 : Fin 1) l) := by
  unfold k5_pay377
  exact cast_16 v702 l

theorem k5_pay378_lane (v707 : Vec F S1x1x16 .f32) (l : Fin 16) :
    k5_pay378 v707 (ix1 l) = v707 (ix3 (0 : Fin 1) (0 : Fin 1) l) := by
  unfold k5_pay378
  exact cast_16 v707 l

theorem k5_pay379_lane (v712 : Vec F S1x1x16 .f32) (l : Fin 16) :
    k5_pay379 v712 (ix1 l) = v712 (ix3 (0 : Fin 1) (0 : Fin 1) l) := by
  unfold k5_pay379
  exact cast_16 v712 l

theorem k5_pay380_lane (v717 : Vec F S1x1x16 .f32) (l : Fin 16) :
    k5_pay380 v717 (ix1 l) = v717 (ix3 (0 : Fin 1) (0 : Fin 1) l) := by
  unfold k5_pay380
  exact cast_16 v717 l

theorem k5_pay381_lane (v722 : Vec F S1x1x16 .f32) (l : Fin 16) :
    k5_pay381 v722 (ix1 l) = v722 (ix3 (0 : Fin 1) (0 : Fin 1) l) := by
  unfold k5_pay381
  exact cast_16 v722 l

theorem k5_pay382_lane (v727 : Vec F S1x1x16 .f32) (l : Fin 16) :
    k5_pay382 v727 (ix1 l) = v727 (ix3 (0 : Fin 1) (0 : Fin 1) l) := by
  unfold k5_pay382
  exact cast_16 v727 l

theorem k5_pay383_lane (v732 : Vec F S1x1x16 .f32) (l : Fin 16) :
    k5_pay383 v732 (ix1 l) = v732 (ix3 (0 : Fin 1) (0 : Fin 1) l) := by
  unfold k5_pay383
  exact cast_16 v732 l

theorem k5_pay384_lane (v737 : Vec F S1x1x16 .f32) (l : Fin 16) :
    k5_pay384 v737 (ix1 l) = v737 (ix3 (0 : Fin 1) (0 : Fin 1) l) := by
  unfold k5_pay384
  exact cast_16 v737 l

theorem k5_pay385_lane (v742 : Vec F S1x1x16 .f32) (l : Fin 16) :
    k5_pay385 v742 (ix1 l) = v742 (ix3 (0 : Fin 1) (0 : Fin 1) l) := by
  unfold k5_pay385
  exact cast_16 v742 l

theorem k5_pay386_lane (v747 : Vec F S1x1x16 .f32) (l : Fin 16) :
    k5_pay386 v747 (ix1 l) = v747 (ix3 (0 : Fin 1) (0 : Fin 1) l) := by
  unfold k5_pay386
  exact cast_16 v747 l

theorem k5_pay387_lane (v752 : Vec F S1x1x16 .f32) (l : Fin 16) :
    k5_pay387 v752 (ix1 l) = v752 (ix3 (0 : Fin 1) (0 : Fin 1) l) := by
  unfold k5_pay387
  exact cast_16 v752 l

theorem k5_pay388_lane (v757 : Vec F S1x1x16 .f32) (l : Fin 16) :
    k5_pay388 v757 (ix1 l) = v757 (ix3 (0 : Fin 1) (0 : Fin 1) l) := by
  unfold k5_pay388
  exact cast_16 v757 l

theorem k5_pay389_lane (v762 : Vec F S1x1x16 .f32) (l : Fin 16) :
    k5_pay389 v762 (ix1 l) = v762 (ix3 (0 : Fin 1) (0 : Fin 1) l) := by
  unfold k5_pay389
  exact cast_16 v762 l

theorem k5_pay390_lane (v767 : Vec F S1x1x16 .f32) (l : Fin 16) :
    k5_pay390 v767 (ix1 l) = v767 (ix3 (0 : Fin 1) (0 : Fin 1) l) := by
  unfold k5_pay390
  exact cast_16 v767 l

theorem k5_pay391_lane (v772 : Vec F S1x1x16 .f32) (l : Fin 16) :
    k5_pay391 v772 (ix1 l) = v772 (ix3 (0 : Fin 1) (0 : Fin 1) l) := by
  unfold k5_pay391
  exact cast_16 v772 l

theorem k5_pay392_lane (v777 : Vec F S1x1x16 .f32) (l : Fin 16) :
    k5_pay392 v777 (ix1 l) = v777 (ix3 (0 : Fin 1) (0 : Fin 1) l) := by
  unfold k5_pay392
  exact cast_16 v777 l

theorem k5_pay393_lane (v782 : Vec F S1x1x16 .f32) (l : Fin 16) :
    k5_pay393 v782 (ix1 l) = v782 (ix3 (0 : Fin 1) (0 : Fin 1) l) := by
  unfold k5_pay393
  exact cast_16 v782 l

theorem k5_pay394_lane (v787 : Vec F S1x1x16 .f32) (l : Fin 16) :
    k5_pay394 v787 (ix1 l) = v787 (ix3 (0 : Fin 1) (0 : Fin 1) l) := by
  unfold k5_pay394
  exact cast_16 v787 l

theorem k5_pay395_lane (v792 : Vec F S1x1x16 .f32) (l : Fin 16) :
    k5_pay395 v792 (ix1 l) = v792 (ix3 (0 : Fin 1) (0 : Fin 1) l) := by
  unfold k5_pay395
  exact cast_16 v792 l

theorem k5_pay396_lane (v797 : Vec F S1x1x16 .f32) (l : Fin 16) :
    k5_pay396 v797 (ix1 l) = v797 (ix3 (0 : Fin 1) (0 : Fin 1) l) := by
  unfold k5_pay396
  exact cast_16 v797 l

theorem k5_pay397_lane (v802 : Vec F S1x1x16 .f32) (l : Fin 16) :
    k5_pay397 v802 (ix1 l) = v802 (ix3 (0 : Fin 1) (0 : Fin 1) l) := by
  unfold k5_pay397
  exact cast_16 v802 l

theorem k5_pay398_lane (v807 : Vec F S1x1x16 .f32) (l : Fin 16) :
    k5_pay398 v807 (ix1 l) = v807 (ix3 (0 : Fin 1) (0 : Fin 1) l) := by
  unfold k5_pay398
  exact cast_16 v807 l

theorem k5_pay399_lane (v812 : Vec F S1x1x16 .f32) (l : Fin 16) :
    k5_pay399 v812 (ix1 l) = v812 (ix3 (0 : Fin 1) (0 : Fin 1) l) := by
  unfold k5_pay399
  exact cast_16 v812 l

theorem k5_pay400_lane (v817 : Vec F S1x1x16 .f32) (l : Fin 16) :
    k5_pay400 v817 (ix1 l) = v817 (ix3 (0 : Fin 1) (0 : Fin 1) l) := by
  unfold k5_pay400
  exact cast_16 v817 l

theorem k5_pay401_lane (v822 : Vec F S1x1x16 .f32) (l : Fin 16) :
    k5_pay401 v822 (ix1 l) = v822 (ix3 (0 : Fin 1) (0 : Fin 1) l) := by
  unfold k5_pay401
  exact cast_16 v822 l

theorem k5_pay402_lane (v827 : Vec F S1x1x16 .f32) (l : Fin 16) :
    k5_pay402 v827 (ix1 l) = v827 (ix3 (0 : Fin 1) (0 : Fin 1) l) := by
  unfold k5_pay402
  exact cast_16 v827 l

theorem k5_pay403_lane (v832 : Vec F S1x1x16 .f32) (l : Fin 16) :
    k5_pay403 v832 (ix1 l) = v832 (ix3 (0 : Fin 1) (0 : Fin 1) l) := by
  unfold k5_pay403
  exact cast_16 v832 l

theorem k5_pay404_lane (v837 : Vec F S1x1x16 .f32) (l : Fin 16) :
    k5_pay404 v837 (ix1 l) = v837 (ix3 (0 : Fin 1) (0 : Fin 1) l) := by
  unfold k5_pay404
  exact cast_16 v837 l

theorem k5_pay405_lane (v842 : Vec F S1x1x16 .f32) (l : Fin 16) :
    k5_pay405 v842 (ix1 l) = v842 (ix3 (0 : Fin 1) (0 : Fin 1) l) := by
  unfold k5_pay405
  exact cast_16 v842 l

theorem k5_pay406_lane (v847 : Vec F S1x1x16 .f32) (l : Fin 16) :
    k5_pay406 v847 (ix1 l) = v847 (ix3 (0 : Fin 1) (0 : Fin 1) l) := by
  unfold k5_pay406
  exact cast_16 v847 l

theorem k5_pay407_lane (v852 : Vec F S1x1x16 .f32) (l : Fin 16) :
    k5_pay407 v852 (ix1 l) = v852 (ix3 (0 : Fin 1) (0 : Fin 1) l) := by
  unfold k5_pay407
  exact cast_16 v852 l

theorem k5_pay408_lane (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (l : Fin 16) :
    k5_pay408 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = FloatOps.addf (FloatOps.addf (FloatOps.addf (FloatOps.addf (FloatOps.addf (v703 (ix1 l)) (v708 (ix1 l))) (FloatOps.addf (v713 (ix1 l)) (v718 (ix1 l)))) (FloatOps.addf (FloatOps.addf (v723 (ix1 l)) (v728 (ix1 l))) (FloatOps.addf (v733 (ix1 l)) (v738 (ix1 l))))) (FloatOps.addf (FloatOps.addf (FloatOps.addf (v743 (ix1 l)) (v748 (ix1 l))) (FloatOps.addf (v753 (ix1 l)) (v758 (ix1 l)))) (FloatOps.addf (FloatOps.addf (v763 (ix1 l)) (v768 (ix1 l))) (FloatOps.addf (v773 (ix1 l)) (v778 (ix1 l)))))) (FloatOps.addf (FloatOps.addf (FloatOps.addf (FloatOps.addf (v783 (ix1 l)) (v788 (ix1 l))) (FloatOps.addf (v793 (ix1 l)) (v798 (ix1 l)))) (FloatOps.addf (FloatOps.addf (v803 (ix1 l)) (v808 (ix1 l))) (FloatOps.addf (v813 (ix1 l)) (v818 (ix1 l))))) (FloatOps.addf (FloatOps.addf (FloatOps.addf (v823 (ix1 l)) (v828 (ix1 l))) (FloatOps.addf (v833 (ix1 l)) (v838 (ix1 l)))) (FloatOps.addf (FloatOps.addf (v843 (ix1 l)) (v848 (ix1 l))) (FloatOps.addf (v853 (ix1 l)) (v857 (ix3 (0 : Fin 1) (0 : Fin 1) l)))))) := by
  unfold k5_pay408
  refine (cast_116 _ l).trans ?_
  exact congrArg₂ FloatOps.addf (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (cast_16 v857 l)))))

theorem k5_pay408_tree (v703 : FVec F S16 .f32) (v708 : FVec F S16 .f32) (v713 : FVec F S16 .f32) (v718 : FVec F S16 .f32) (v723 : FVec F S16 .f32) (v728 : FVec F S16 .f32) (v733 : FVec F S16 .f32) (v738 : FVec F S16 .f32) (v743 : FVec F S16 .f32) (v748 : FVec F S16 .f32) (v753 : FVec F S16 .f32) (v758 : FVec F S16 .f32) (v763 : FVec F S16 .f32) (v768 : FVec F S16 .f32) (v773 : FVec F S16 .f32) (v778 : FVec F S16 .f32) (v783 : FVec F S16 .f32) (v788 : FVec F S16 .f32) (v793 : FVec F S16 .f32) (v798 : FVec F S16 .f32) (v803 : FVec F S16 .f32) (v808 : FVec F S16 .f32) (v813 : FVec F S16 .f32) (v818 : FVec F S16 .f32) (v823 : FVec F S16 .f32) (v828 : FVec F S16 .f32) (v833 : FVec F S16 .f32) (v838 : FVec F S16 .f32) (v843 : FVec F S16 .f32) (v848 : FVec F S16 .f32) (v853 : FVec F S16 .f32) (v857 : Vec F S1x1x16 .f32) (w : Fin 32 → F .f32) (l : Fin 16)
    (h_v703 : v703 (ix1 l) = w 0)
    (h_v708 : v708 (ix1 l) = w 1)
    (h_v713 : v713 (ix1 l) = w 2)
    (h_v718 : v718 (ix1 l) = w 3)
    (h_v723 : v723 (ix1 l) = w 4)
    (h_v728 : v728 (ix1 l) = w 5)
    (h_v733 : v733 (ix1 l) = w 6)
    (h_v738 : v738 (ix1 l) = w 7)
    (h_v743 : v743 (ix1 l) = w 8)
    (h_v748 : v748 (ix1 l) = w 9)
    (h_v753 : v753 (ix1 l) = w 10)
    (h_v758 : v758 (ix1 l) = w 11)
    (h_v763 : v763 (ix1 l) = w 12)
    (h_v768 : v768 (ix1 l) = w 13)
    (h_v773 : v773 (ix1 l) = w 14)
    (h_v778 : v778 (ix1 l) = w 15)
    (h_v783 : v783 (ix1 l) = w 16)
    (h_v788 : v788 (ix1 l) = w 17)
    (h_v793 : v793 (ix1 l) = w 18)
    (h_v798 : v798 (ix1 l) = w 19)
    (h_v803 : v803 (ix1 l) = w 20)
    (h_v808 : v808 (ix1 l) = w 21)
    (h_v813 : v813 (ix1 l) = w 22)
    (h_v818 : v818 (ix1 l) = w 23)
    (h_v823 : v823 (ix1 l) = w 24)
    (h_v828 : v828 (ix1 l) = w 25)
    (h_v833 : v833 (ix1 l) = w 26)
    (h_v838 : v838 (ix1 l) = w 27)
    (h_v843 : v843 (ix1 l) = w 28)
    (h_v848 : v848 (ix1 l) = w 29)
    (h_v853 : v853 (ix1 l) = w 30)
    (h_v857 : v857 (ix3 (0 : Fin 1) (0 : Fin 1) l) = w 31) :
    k5_pay408 v703 v708 v713 v718 v723 v728 v733 v738 v743 v748 v753 v758 v763 v768 v773 v778 v783 v788 v793 v798 v803 v808 v813 v818 v823 v828 v833 v838 v843 v848 v853 v857 (ix3 (0 : Fin 1) (0 : Fin 1) l) = tree32 w := by
  unfold k5_pay408
  refine (cast_116 _ l).trans ?_
  exact congrArg₂ FloatOps.addf (congrArg₂ FloatOps.addf (congrArg₂ FloatOps.addf (congrArg₂ FloatOps.addf (congrArg₂ FloatOps.addf (h_v703) (h_v708)) (congrArg₂ FloatOps.addf (h_v713) (h_v718))) (congrArg₂ FloatOps.addf (congrArg₂ FloatOps.addf (h_v723) (h_v728)) (congrArg₂ FloatOps.addf (h_v733) (h_v738)))) (congrArg₂ FloatOps.addf (congrArg₂ FloatOps.addf (congrArg₂ FloatOps.addf (h_v743) (h_v748)) (congrArg₂ FloatOps.addf (h_v753) (h_v758))) (congrArg₂ FloatOps.addf (congrArg₂ FloatOps.addf (h_v763) (h_v768)) (congrArg₂ FloatOps.addf (h_v773) (h_v778))))) (congrArg₂ FloatOps.addf (congrArg₂ FloatOps.addf (congrArg₂ FloatOps.addf (congrArg₂ FloatOps.addf (h_v783) (h_v788)) (congrArg₂ FloatOps.addf (h_v793) (h_v798))) (congrArg₂ FloatOps.addf (congrArg₂ FloatOps.addf (h_v803) (h_v808)) (congrArg₂ FloatOps.addf (h_v813) (h_v818)))) (congrArg₂ FloatOps.addf (congrArg₂ FloatOps.addf (congrArg₂ FloatOps.addf (h_v823) (h_v828)) (congrArg₂ FloatOps.addf (h_v833) (h_v838))) (congrArg₂ FloatOps.addf (congrArg₂ FloatOps.addf (h_v843) (h_v848)) (congrArg₂ FloatOps.addf (h_v853) ((cast_16 v857 l).trans h_v857)))))

theorem k5_pay409_lane (v898 : Vec F S1x1x16 .f32) (l : Fin 16) :
    k5_pay409 v898 (ix1 l) = v898 (ix3 (0 : Fin 1) (0 : Fin 1) l) := by
  unfold k5_pay409
  exact cast_16 v898 l

theorem k5_pay410_lane (v903 : Vec F S1x1x16 .f32) (l : Fin 16) :
    k5_pay410 v903 (ix1 l) = v903 (ix3 (0 : Fin 1) (0 : Fin 1) l) := by
  unfold k5_pay410
  exact cast_16 v903 l

theorem k5_pay411_lane (v908 : Vec F S1x1x16 .f32) (l : Fin 16) :
    k5_pay411 v908 (ix1 l) = v908 (ix3 (0 : Fin 1) (0 : Fin 1) l) := by
  unfold k5_pay411
  exact cast_16 v908 l

theorem k5_pay412_lane (v913 : Vec F S1x1x16 .f32) (l : Fin 16) :
    k5_pay412 v913 (ix1 l) = v913 (ix3 (0 : Fin 1) (0 : Fin 1) l) := by
  unfold k5_pay412
  exact cast_16 v913 l

theorem k5_pay413_lane (v918 : Vec F S1x1x16 .f32) (l : Fin 16) :
    k5_pay413 v918 (ix1 l) = v918 (ix3 (0 : Fin 1) (0 : Fin 1) l) := by
  unfold k5_pay413
  exact cast_16 v918 l

theorem k5_pay414_lane (v923 : Vec F S1x1x16 .f32) (l : Fin 16) :
    k5_pay414 v923 (ix1 l) = v923 (ix3 (0 : Fin 1) (0 : Fin 1) l) := by
  unfold k5_pay414
  exact cast_16 v923 l

theorem k5_pay415_lane (v928 : Vec F S1x1x16 .f32) (l : Fin 16) :
    k5_pay415 v928 (ix1 l) = v928 (ix3 (0 : Fin 1) (0 : Fin 1) l) := by
  unfold k5_pay415
  exact cast_16 v928 l

theorem k5_pay416_lane (v933 : Vec F S1x1x16 .f32) (l : Fin 16) :
    k5_pay416 v933 (ix1 l) = v933 (ix3 (0 : Fin 1) (0 : Fin 1) l) := by
  unfold k5_pay416
  exact cast_16 v933 l

theorem k5_pay417_lane (v938 : Vec F S1x1x16 .f32) (l : Fin 16) :
    k5_pay417 v938 (ix1 l) = v938 (ix3 (0 : Fin 1) (0 : Fin 1) l) := by
  unfold k5_pay417
  exact cast_16 v938 l

theorem k5_pay418_lane (v943 : Vec F S1x1x16 .f32) (l : Fin 16) :
    k5_pay418 v943 (ix1 l) = v943 (ix3 (0 : Fin 1) (0 : Fin 1) l) := by
  unfold k5_pay418
  exact cast_16 v943 l

theorem k5_pay419_lane (v948 : Vec F S1x1x16 .f32) (l : Fin 16) :
    k5_pay419 v948 (ix1 l) = v948 (ix3 (0 : Fin 1) (0 : Fin 1) l) := by
  unfold k5_pay419
  exact cast_16 v948 l

theorem k5_pay420_lane (v953 : Vec F S1x1x16 .f32) (l : Fin 16) :
    k5_pay420 v953 (ix1 l) = v953 (ix3 (0 : Fin 1) (0 : Fin 1) l) := by
  unfold k5_pay420
  exact cast_16 v953 l

theorem k5_pay421_lane (v958 : Vec F S1x1x16 .f32) (l : Fin 16) :
    k5_pay421 v958 (ix1 l) = v958 (ix3 (0 : Fin 1) (0 : Fin 1) l) := by
  unfold k5_pay421
  exact cast_16 v958 l

theorem k5_pay422_lane (v963 : Vec F S1x1x16 .f32) (l : Fin 16) :
    k5_pay422 v963 (ix1 l) = v963 (ix3 (0 : Fin 1) (0 : Fin 1) l) := by
  unfold k5_pay422
  exact cast_16 v963 l

theorem k5_pay423_lane (v968 : Vec F S1x1x16 .f32) (l : Fin 16) :
    k5_pay423 v968 (ix1 l) = v968 (ix3 (0 : Fin 1) (0 : Fin 1) l) := by
  unfold k5_pay423
  exact cast_16 v968 l

theorem k5_pay424_lane (v973 : Vec F S1x1x16 .f32) (l : Fin 16) :
    k5_pay424 v973 (ix1 l) = v973 (ix3 (0 : Fin 1) (0 : Fin 1) l) := by
  unfold k5_pay424
  exact cast_16 v973 l

theorem k5_pay425_lane (v978 : Vec F S1x1x16 .f32) (l : Fin 16) :
    k5_pay425 v978 (ix1 l) = v978 (ix3 (0 : Fin 1) (0 : Fin 1) l) := by
  unfold k5_pay425
  exact cast_16 v978 l

theorem k5_pay426_lane (v983 : Vec F S1x1x16 .f32) (l : Fin 16) :
    k5_pay426 v983 (ix1 l) = v983 (ix3 (0 : Fin 1) (0 : Fin 1) l) := by
  unfold k5_pay426
  exact cast_16 v983 l

theorem k5_pay427_lane (v988 : Vec F S1x1x16 .f32) (l : Fin 16) :
    k5_pay427 v988 (ix1 l) = v988 (ix3 (0 : Fin 1) (0 : Fin 1) l) := by
  unfold k5_pay427
  exact cast_16 v988 l

theorem k5_pay428_lane (v993 : Vec F S1x1x16 .f32) (l : Fin 16) :
    k5_pay428 v993 (ix1 l) = v993 (ix3 (0 : Fin 1) (0 : Fin 1) l) := by
  unfold k5_pay428
  exact cast_16 v993 l

theorem k5_pay429_lane (v998 : Vec F S1x1x16 .f32) (l : Fin 16) :
    k5_pay429 v998 (ix1 l) = v998 (ix3 (0 : Fin 1) (0 : Fin 1) l) := by
  unfold k5_pay429
  exact cast_16 v998 l

theorem k5_pay430_lane (v1003 : Vec F S1x1x16 .f32) (l : Fin 16) :
    k5_pay430 v1003 (ix1 l) = v1003 (ix3 (0 : Fin 1) (0 : Fin 1) l) := by
  unfold k5_pay430
  exact cast_16 v1003 l

theorem k5_pay431_lane (v1008 : Vec F S1x1x16 .f32) (l : Fin 16) :
    k5_pay431 v1008 (ix1 l) = v1008 (ix3 (0 : Fin 1) (0 : Fin 1) l) := by
  unfold k5_pay431
  exact cast_16 v1008 l

theorem k5_pay432_lane (v1013 : Vec F S1x1x16 .f32) (l : Fin 16) :
    k5_pay432 v1013 (ix1 l) = v1013 (ix3 (0 : Fin 1) (0 : Fin 1) l) := by
  unfold k5_pay432
  exact cast_16 v1013 l

theorem k5_pay433_lane (v1018 : Vec F S1x1x16 .f32) (l : Fin 16) :
    k5_pay433 v1018 (ix1 l) = v1018 (ix3 (0 : Fin 1) (0 : Fin 1) l) := by
  unfold k5_pay433
  exact cast_16 v1018 l

theorem k5_pay434_lane (v1023 : Vec F S1x1x16 .f32) (l : Fin 16) :
    k5_pay434 v1023 (ix1 l) = v1023 (ix3 (0 : Fin 1) (0 : Fin 1) l) := by
  unfold k5_pay434
  exact cast_16 v1023 l

theorem k5_pay435_lane (v1028 : Vec F S1x1x16 .f32) (l : Fin 16) :
    k5_pay435 v1028 (ix1 l) = v1028 (ix3 (0 : Fin 1) (0 : Fin 1) l) := by
  unfold k5_pay435
  exact cast_16 v1028 l

theorem k5_pay436_lane (v1033 : Vec F S1x1x16 .f32) (l : Fin 16) :
    k5_pay436 v1033 (ix1 l) = v1033 (ix3 (0 : Fin 1) (0 : Fin 1) l) := by
  unfold k5_pay436
  exact cast_16 v1033 l

theorem k5_pay437_lane (v1038 : Vec F S1x1x16 .f32) (l : Fin 16) :
    k5_pay437 v1038 (ix1 l) = v1038 (ix3 (0 : Fin 1) (0 : Fin 1) l) := by
  unfold k5_pay437
  exact cast_16 v1038 l

theorem k5_pay438_lane (v1043 : Vec F S1x1x16 .f32) (l : Fin 16) :
    k5_pay438 v1043 (ix1 l) = v1043 (ix3 (0 : Fin 1) (0 : Fin 1) l) := by
  unfold k5_pay438
  exact cast_16 v1043 l

theorem k5_pay439_lane (v1048 : Vec F S1x1x16 .f32) (l : Fin 16) :
    k5_pay439 v1048 (ix1 l) = v1048 (ix3 (0 : Fin 1) (0 : Fin 1) l) := by
  unfold k5_pay439
  exact cast_16 v1048 l

theorem k5_pay440_lane (v1053 : Vec F S1x1x16 .f32) (l : Fin 16) :
    k5_pay440 v1053 (ix1 l) = v1053 (ix3 (0 : Fin 1) (0 : Fin 1) l) := by
  unfold k5_pay440
  exact cast_16 v1053 l

theorem k5_pay441_lane (v899 : FVec F S16 .f32) (v904 : FVec F S16 .f32) (l : Fin 16) :
    k5_pay441 v899 v904 (ix1 l) = FloatOps.addf (v899 (ix1 l)) (v904 (ix1 l)) := by
  unfold k5_pay441
  exact congrArg₂ FloatOps.addf (rfl) (rfl)

theorem k5_pay442_lane (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (l : Fin 16) :
    k5_pay442 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = FloatOps.addf (FloatOps.addf (FloatOps.addf (FloatOps.addf (v1055 (ix1 l)) (FloatOps.addf (v909 (ix1 l)) (v914 (ix1 l)))) (FloatOps.addf (FloatOps.addf (v919 (ix1 l)) (v924 (ix1 l))) (FloatOps.addf (v929 (ix1 l)) (v934 (ix1 l))))) (FloatOps.addf (FloatOps.addf (FloatOps.addf (v939 (ix1 l)) (v944 (ix1 l))) (FloatOps.addf (v949 (ix1 l)) (v954 (ix1 l)))) (FloatOps.addf (FloatOps.addf (v959 (ix1 l)) (v964 (ix1 l))) (FloatOps.addf (v969 (ix1 l)) (v974 (ix1 l)))))) (FloatOps.addf (FloatOps.addf (FloatOps.addf (FloatOps.addf (v979 (ix1 l)) (v984 (ix1 l))) (FloatOps.addf (v989 (ix1 l)) (v994 (ix1 l)))) (FloatOps.addf (FloatOps.addf (v999 (ix1 l)) (v1004 (ix1 l))) (FloatOps.addf (v1009 (ix1 l)) (v1014 (ix1 l))))) (FloatOps.addf (FloatOps.addf (FloatOps.addf (v1019 (ix1 l)) (v1024 (ix1 l))) (FloatOps.addf (v1029 (ix1 l)) (v1034 (ix1 l)))) (FloatOps.addf (FloatOps.addf (v1039 (ix1 l)) (v1044 (ix1 l))) (FloatOps.addf (v1049 (ix1 l)) (v1054 (ix1 l)))))) := by
  unfold k5_pay442
  refine (cast_116 _ l).trans ?_
  exact congrArg₂ FloatOps.addf (congrArg₂ FloatOps.addf (congrArg₂ FloatOps.addf (congrArg₂ FloatOps.addf (rfl) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k5_pay442_tree (v909 : FVec F S16 .f32) (v914 : FVec F S16 .f32) (v919 : FVec F S16 .f32) (v924 : FVec F S16 .f32) (v929 : FVec F S16 .f32) (v934 : FVec F S16 .f32) (v939 : FVec F S16 .f32) (v944 : FVec F S16 .f32) (v949 : FVec F S16 .f32) (v954 : FVec F S16 .f32) (v959 : FVec F S16 .f32) (v964 : FVec F S16 .f32) (v969 : FVec F S16 .f32) (v974 : FVec F S16 .f32) (v979 : FVec F S16 .f32) (v984 : FVec F S16 .f32) (v989 : FVec F S16 .f32) (v994 : FVec F S16 .f32) (v999 : FVec F S16 .f32) (v1004 : FVec F S16 .f32) (v1009 : FVec F S16 .f32) (v1014 : FVec F S16 .f32) (v1019 : FVec F S16 .f32) (v1024 : FVec F S16 .f32) (v1029 : FVec F S16 .f32) (v1034 : FVec F S16 .f32) (v1039 : FVec F S16 .f32) (v1044 : FVec F S16 .f32) (v1049 : FVec F S16 .f32) (v1054 : FVec F S16 .f32) (v1055 : FVec F S16 .f32) (w : Fin 32 → F .f32) (l : Fin 16)
    (h_v1055 : v1055 (ix1 l) = FloatOps.addf (w 0) (w 1))
    (h_v909 : v909 (ix1 l) = w 2)
    (h_v914 : v914 (ix1 l) = w 3)
    (h_v919 : v919 (ix1 l) = w 4)
    (h_v924 : v924 (ix1 l) = w 5)
    (h_v929 : v929 (ix1 l) = w 6)
    (h_v934 : v934 (ix1 l) = w 7)
    (h_v939 : v939 (ix1 l) = w 8)
    (h_v944 : v944 (ix1 l) = w 9)
    (h_v949 : v949 (ix1 l) = w 10)
    (h_v954 : v954 (ix1 l) = w 11)
    (h_v959 : v959 (ix1 l) = w 12)
    (h_v964 : v964 (ix1 l) = w 13)
    (h_v969 : v969 (ix1 l) = w 14)
    (h_v974 : v974 (ix1 l) = w 15)
    (h_v979 : v979 (ix1 l) = w 16)
    (h_v984 : v984 (ix1 l) = w 17)
    (h_v989 : v989 (ix1 l) = w 18)
    (h_v994 : v994 (ix1 l) = w 19)
    (h_v999 : v999 (ix1 l) = w 20)
    (h_v1004 : v1004 (ix1 l) = w 21)
    (h_v1009 : v1009 (ix1 l) = w 22)
    (h_v1014 : v1014 (ix1 l) = w 23)
    (h_v1019 : v1019 (ix1 l) = w 24)
    (h_v1024 : v1024 (ix1 l) = w 25)
    (h_v1029 : v1029 (ix1 l) = w 26)
    (h_v1034 : v1034 (ix1 l) = w 27)
    (h_v1039 : v1039 (ix1 l) = w 28)
    (h_v1044 : v1044 (ix1 l) = w 29)
    (h_v1049 : v1049 (ix1 l) = w 30)
    (h_v1054 : v1054 (ix1 l) = w 31) :
    k5_pay442 v909 v914 v919 v924 v929 v934 v939 v944 v949 v954 v959 v964 v969 v974 v979 v984 v989 v994 v999 v1004 v1009 v1014 v1019 v1024 v1029 v1034 v1039 v1044 v1049 v1054 v1055 (ix3 (0 : Fin 1) (0 : Fin 1) l) = tree32 w := by
  unfold k5_pay442
  refine (cast_116 _ l).trans ?_
  exact congrArg₂ FloatOps.addf (congrArg₂ FloatOps.addf (congrArg₂ FloatOps.addf (congrArg₂ FloatOps.addf (h_v1055) (congrArg₂ FloatOps.addf (h_v909) (h_v914))) (congrArg₂ FloatOps.addf (congrArg₂ FloatOps.addf (h_v919) (h_v924)) (congrArg₂ FloatOps.addf (h_v929) (h_v934)))) (congrArg₂ FloatOps.addf (congrArg₂ FloatOps.addf (congrArg₂ FloatOps.addf (h_v939) (h_v944)) (congrArg₂ FloatOps.addf (h_v949) (h_v954))) (congrArg₂ FloatOps.addf (congrArg₂ FloatOps.addf (h_v959) (h_v964)) (congrArg₂ FloatOps.addf (h_v969) (h_v974))))) (congrArg₂ FloatOps.addf (congrArg₂ FloatOps.addf (congrArg₂ FloatOps.addf (congrArg₂ FloatOps.addf (h_v979) (h_v984)) (congrArg₂ FloatOps.addf (h_v989) (h_v994))) (congrArg₂ FloatOps.addf (congrArg₂ FloatOps.addf (h_v999) (h_v1004)) (congrArg₂ FloatOps.addf (h_v1009) (h_v1014)))) (congrArg₂ FloatOps.addf (congrArg₂ FloatOps.addf (congrArg₂ FloatOps.addf (h_v1019) (h_v1024)) (congrArg₂ FloatOps.addf (h_v1029) (h_v1034))) (congrArg₂ FloatOps.addf (congrArg₂ FloatOps.addf (h_v1039) (h_v1044)) (congrArg₂ FloatOps.addf (h_v1049) (h_v1054)))))

theorem k5_pay443_lane (v1094 : Vec F S1x1x16 .f32) (l : Fin 16) :
    k5_pay443 v1094 (ix1 l) = v1094 (ix3 (0 : Fin 1) (0 : Fin 1) l) := by
  unfold k5_pay443
  exact cast_16 v1094 l

theorem k5_pay444_lane (v1099 : Vec F S1x1x16 .f32) (l : Fin 16) :
    k5_pay444 v1099 (ix1 l) = v1099 (ix3 (0 : Fin 1) (0 : Fin 1) l) := by
  unfold k5_pay444
  exact cast_16 v1099 l

theorem k5_pay445_lane (v1104 : Vec F S1x1x16 .f32) (l : Fin 16) :
    k5_pay445 v1104 (ix1 l) = v1104 (ix3 (0 : Fin 1) (0 : Fin 1) l) := by
  unfold k5_pay445
  exact cast_16 v1104 l

theorem k5_pay446_lane (v1109 : Vec F S1x1x16 .f32) (l : Fin 16) :
    k5_pay446 v1109 (ix1 l) = v1109 (ix3 (0 : Fin 1) (0 : Fin 1) l) := by
  unfold k5_pay446
  exact cast_16 v1109 l

theorem k5_pay447_lane (v1114 : Vec F S1x1x16 .f32) (l : Fin 16) :
    k5_pay447 v1114 (ix1 l) = v1114 (ix3 (0 : Fin 1) (0 : Fin 1) l) := by
  unfold k5_pay447
  exact cast_16 v1114 l

theorem k5_pay448_lane (v1119 : Vec F S1x1x16 .f32) (l : Fin 16) :
    k5_pay448 v1119 (ix1 l) = v1119 (ix3 (0 : Fin 1) (0 : Fin 1) l) := by
  unfold k5_pay448
  exact cast_16 v1119 l

theorem k5_pay449_lane (v1124 : Vec F S1x1x16 .f32) (l : Fin 16) :
    k5_pay449 v1124 (ix1 l) = v1124 (ix3 (0 : Fin 1) (0 : Fin 1) l) := by
  unfold k5_pay449
  exact cast_16 v1124 l

theorem k5_pay450_lane (v1129 : Vec F S1x1x16 .f32) (l : Fin 16) :
    k5_pay450 v1129 (ix1 l) = v1129 (ix3 (0 : Fin 1) (0 : Fin 1) l) := by
  unfold k5_pay450
  exact cast_16 v1129 l

theorem k5_pay451_lane (v1134 : Vec F S1x1x16 .f32) (l : Fin 16) :
    k5_pay451 v1134 (ix1 l) = v1134 (ix3 (0 : Fin 1) (0 : Fin 1) l) := by
  unfold k5_pay451
  exact cast_16 v1134 l

theorem k5_pay452_lane (v1139 : Vec F S1x1x16 .f32) (l : Fin 16) :
    k5_pay452 v1139 (ix1 l) = v1139 (ix3 (0 : Fin 1) (0 : Fin 1) l) := by
  unfold k5_pay452
  exact cast_16 v1139 l

theorem k5_pay453_lane (v1144 : Vec F S1x1x16 .f32) (l : Fin 16) :
    k5_pay453 v1144 (ix1 l) = v1144 (ix3 (0 : Fin 1) (0 : Fin 1) l) := by
  unfold k5_pay453
  exact cast_16 v1144 l

theorem k5_pay454_lane (v1149 : Vec F S1x1x16 .f32) (l : Fin 16) :
    k5_pay454 v1149 (ix1 l) = v1149 (ix3 (0 : Fin 1) (0 : Fin 1) l) := by
  unfold k5_pay454
  exact cast_16 v1149 l

theorem k5_pay455_lane (v1154 : Vec F S1x1x16 .f32) (l : Fin 16) :
    k5_pay455 v1154 (ix1 l) = v1154 (ix3 (0 : Fin 1) (0 : Fin 1) l) := by
  unfold k5_pay455
  exact cast_16 v1154 l

theorem k5_pay456_lane (v1159 : Vec F S1x1x16 .f32) (l : Fin 16) :
    k5_pay456 v1159 (ix1 l) = v1159 (ix3 (0 : Fin 1) (0 : Fin 1) l) := by
  unfold k5_pay456
  exact cast_16 v1159 l

theorem k5_pay457_lane (v1164 : Vec F S1x1x16 .f32) (l : Fin 16) :
    k5_pay457 v1164 (ix1 l) = v1164 (ix3 (0 : Fin 1) (0 : Fin 1) l) := by
  unfold k5_pay457
  exact cast_16 v1164 l

theorem k5_pay458_lane (v1169 : Vec F S1x1x16 .f32) (l : Fin 16) :
    k5_pay458 v1169 (ix1 l) = v1169 (ix3 (0 : Fin 1) (0 : Fin 1) l) := by
  unfold k5_pay458
  exact cast_16 v1169 l

theorem k5_pay459_lane (v1174 : Vec F S1x1x16 .f32) (l : Fin 16) :
    k5_pay459 v1174 (ix1 l) = v1174 (ix3 (0 : Fin 1) (0 : Fin 1) l) := by
  unfold k5_pay459
  exact cast_16 v1174 l

theorem k5_pay460_lane (v1179 : Vec F S1x1x16 .f32) (l : Fin 16) :
    k5_pay460 v1179 (ix1 l) = v1179 (ix3 (0 : Fin 1) (0 : Fin 1) l) := by
  unfold k5_pay460
  exact cast_16 v1179 l

theorem k5_pay461_lane (v1184 : Vec F S1x1x16 .f32) (l : Fin 16) :
    k5_pay461 v1184 (ix1 l) = v1184 (ix3 (0 : Fin 1) (0 : Fin 1) l) := by
  unfold k5_pay461
  exact cast_16 v1184 l

theorem k5_pay462_lane (v1189 : Vec F S1x1x16 .f32) (l : Fin 16) :
    k5_pay462 v1189 (ix1 l) = v1189 (ix3 (0 : Fin 1) (0 : Fin 1) l) := by
  unfold k5_pay462
  exact cast_16 v1189 l

theorem k5_pay463_lane (v1194 : Vec F S1x1x16 .f32) (l : Fin 16) :
    k5_pay463 v1194 (ix1 l) = v1194 (ix3 (0 : Fin 1) (0 : Fin 1) l) := by
  unfold k5_pay463
  exact cast_16 v1194 l

theorem k5_pay464_lane (v1199 : Vec F S1x1x16 .f32) (l : Fin 16) :
    k5_pay464 v1199 (ix1 l) = v1199 (ix3 (0 : Fin 1) (0 : Fin 1) l) := by
  unfold k5_pay464
  exact cast_16 v1199 l

theorem k5_pay465_lane (v1204 : Vec F S1x1x16 .f32) (l : Fin 16) :
    k5_pay465 v1204 (ix1 l) = v1204 (ix3 (0 : Fin 1) (0 : Fin 1) l) := by
  unfold k5_pay465
  exact cast_16 v1204 l

theorem k5_pay466_lane (v1209 : Vec F S1x1x16 .f32) (l : Fin 16) :
    k5_pay466 v1209 (ix1 l) = v1209 (ix3 (0 : Fin 1) (0 : Fin 1) l) := by
  unfold k5_pay466
  exact cast_16 v1209 l

theorem k5_pay467_lane (v1214 : Vec F S1x1x16 .f32) (l : Fin 16) :
    k5_pay467 v1214 (ix1 l) = v1214 (ix3 (0 : Fin 1) (0 : Fin 1) l) := by
  unfold k5_pay467
  exact cast_16 v1214 l

theorem k5_pay468_lane (v1219 : Vec F S1x1x16 .f32) (l : Fin 16) :
    k5_pay468 v1219 (ix1 l) = v1219 (ix3 (0 : Fin 1) (0 : Fin 1) l) := by
  unfold k5_pay468
  exact cast_16 v1219 l

theorem k5_pay469_lane (v1224 : Vec F S1x1x16 .f32) (l : Fin 16) :
    k5_pay469 v1224 (ix1 l) = v1224 (ix3 (0 : Fin 1) (0 : Fin 1) l) := by
  unfold k5_pay469
  exact cast_16 v1224 l

theorem k5_pay470_lane (v1229 : Vec F S1x1x16 .f32) (l : Fin 16) :
    k5_pay470 v1229 (ix1 l) = v1229 (ix3 (0 : Fin 1) (0 : Fin 1) l) := by
  unfold k5_pay470
  exact cast_16 v1229 l

theorem k5_pay471_lane (v1234 : Vec F S1x1x16 .f32) (l : Fin 16) :
    k5_pay471 v1234 (ix1 l) = v1234 (ix3 (0 : Fin 1) (0 : Fin 1) l) := by
  unfold k5_pay471
  exact cast_16 v1234 l

theorem k5_pay472_lane (v1239 : Vec F S1x1x16 .f32) (l : Fin 16) :
    k5_pay472 v1239 (ix1 l) = v1239 (ix3 (0 : Fin 1) (0 : Fin 1) l) := by
  unfold k5_pay472
  exact cast_16 v1239 l

theorem k5_pay473_lane (v1244 : Vec F S1x1x16 .f32) (l : Fin 16) :
    k5_pay473 v1244 (ix1 l) = v1244 (ix3 (0 : Fin 1) (0 : Fin 1) l) := by
  unfold k5_pay473
  exact cast_16 v1244 l

theorem k5_pay474_lane (v1249 : Vec F S1x1x16 .f32) (l : Fin 16) :
    k5_pay474 v1249 (ix1 l) = v1249 (ix3 (0 : Fin 1) (0 : Fin 1) l) := by
  unfold k5_pay474
  exact cast_16 v1249 l

theorem k5_pay475_lane (v1095 : FVec F S16 .f32) (v1100 : FVec F S16 .f32) (l : Fin 16) :
    k5_pay475 v1095 v1100 (ix1 l) = FloatOps.addf (v1095 (ix1 l)) (v1100 (ix1 l)) := by
  unfold k5_pay475
  exact congrArg₂ FloatOps.addf (rfl) (rfl)

theorem k5_pay476_lane (v1105 : FVec F S16 .f32) (v1110 : FVec F S16 .f32) (l : Fin 16) :
    k5_pay476 v1105 v1110 (ix1 l) = FloatOps.addf (v1105 (ix1 l)) (v1110 (ix1 l)) := by
  unfold k5_pay476
  exact congrArg₂ FloatOps.addf (rfl) (rfl)

theorem k5_pay477_lane (v1115 : FVec F S16 .f32) (v1120 : FVec F S16 .f32) (l : Fin 16) :
    k5_pay477 v1115 v1120 (ix1 l) = FloatOps.addf (v1115 (ix1 l)) (v1120 (ix1 l)) := by
  unfold k5_pay477
  exact congrArg₂ FloatOps.addf (rfl) (rfl)

theorem k5_pay478_lane (v1125 : FVec F S16 .f32) (v1130 : FVec F S16 .f32) (l : Fin 16) :
    k5_pay478 v1125 v1130 (ix1 l) = FloatOps.addf (v1125 (ix1 l)) (v1130 (ix1 l)) := by
  unfold k5_pay478
  exact congrArg₂ FloatOps.addf (rfl) (rfl)

theorem k5_pay479_lane (v1135 : FVec F S16 .f32) (v1140 : FVec F S16 .f32) (l : Fin 16) :
    k5_pay479 v1135 v1140 (ix1 l) = FloatOps.addf (v1135 (ix1 l)) (v1140 (ix1 l)) := by
  unfold k5_pay479
  exact congrArg₂ FloatOps.addf (rfl) (rfl)

theorem k5_pay480_lane (v1145 : FVec F S16 .f32) (v1150 : FVec F S16 .f32) (l : Fin 16) :
    k5_pay480 v1145 v1150 (ix1 l) = FloatOps.addf (v1145 (ix1 l)) (v1150 (ix1 l)) := by
  unfold k5_pay480
  exact congrArg₂ FloatOps.addf (rfl) (rfl)

theorem k5_pay481_lane (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (l : Fin 16) :
    k5_pay481 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = FloatOps.addf (FloatOps.addf (FloatOps.addf (FloatOps.addf (v1251 (ix1 l)) (v1252 (ix1 l))) (FloatOps.addf (v1253 (ix1 l)) (v1254 (ix1 l)))) (FloatOps.addf (FloatOps.addf (v1255 (ix1 l)) (v1256 (ix1 l))) (FloatOps.addf (FloatOps.addf (v1155 (ix1 l)) (v1160 (ix1 l))) (FloatOps.addf (v1165 (ix1 l)) (v1170 (ix1 l)))))) (FloatOps.addf (FloatOps.addf (FloatOps.addf (FloatOps.addf (v1175 (ix1 l)) (v1180 (ix1 l))) (FloatOps.addf (v1185 (ix1 l)) (v1190 (ix1 l)))) (FloatOps.addf (FloatOps.addf (v1195 (ix1 l)) (v1200 (ix1 l))) (FloatOps.addf (v1205 (ix1 l)) (v1210 (ix1 l))))) (FloatOps.addf (FloatOps.addf (FloatOps.addf (v1215 (ix1 l)) (v1220 (ix1 l))) (FloatOps.addf (v1225 (ix1 l)) (v1230 (ix1 l)))) (FloatOps.addf (FloatOps.addf (v1235 (ix1 l)) (v1240 (ix1 l))) (FloatOps.addf (v1245 (ix1 l)) (v1250 (ix1 l)))))) := by
  unfold k5_pay481
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (congrArg₂ FloatOps.addf (rfl) (rfl)) (congrArg₂ FloatOps.addf (rfl) (rfl))))) (congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k5_pay481_tree (v1155 : FVec F S16 .f32) (v1160 : FVec F S16 .f32) (v1165 : FVec F S16 .f32) (v1170 : FVec F S16 .f32) (v1175 : FVec F S16 .f32) (v1180 : FVec F S16 .f32) (v1185 : FVec F S16 .f32) (v1190 : FVec F S16 .f32) (v1195 : FVec F S16 .f32) (v1200 : FVec F S16 .f32) (v1205 : FVec F S16 .f32) (v1210 : FVec F S16 .f32) (v1215 : FVec F S16 .f32) (v1220 : FVec F S16 .f32) (v1225 : FVec F S16 .f32) (v1230 : FVec F S16 .f32) (v1235 : FVec F S16 .f32) (v1240 : FVec F S16 .f32) (v1245 : FVec F S16 .f32) (v1250 : FVec F S16 .f32) (v1251 : FVec F S16 .f32) (v1252 : FVec F S16 .f32) (v1253 : FVec F S16 .f32) (v1254 : FVec F S16 .f32) (v1255 : FVec F S16 .f32) (v1256 : FVec F S16 .f32) (w : Fin 32 → F .f32) (l : Fin 16)
    (h_v1251 : v1251 (ix1 l) = FloatOps.addf (w 0) (w 1))
    (h_v1252 : v1252 (ix1 l) = FloatOps.addf (w 2) (w 3))
    (h_v1253 : v1253 (ix1 l) = FloatOps.addf (w 4) (w 5))
    (h_v1254 : v1254 (ix1 l) = FloatOps.addf (w 6) (w 7))
    (h_v1255 : v1255 (ix1 l) = FloatOps.addf (w 8) (w 9))
    (h_v1256 : v1256 (ix1 l) = FloatOps.addf (w 10) (w 11))
    (h_v1155 : v1155 (ix1 l) = w 12)
    (h_v1160 : v1160 (ix1 l) = w 13)
    (h_v1165 : v1165 (ix1 l) = w 14)
    (h_v1170 : v1170 (ix1 l) = w 15)
    (h_v1175 : v1175 (ix1 l) = w 16)
    (h_v1180 : v1180 (ix1 l) = w 17)
    (h_v1185 : v1185 (ix1 l) = w 18)
    (h_v1190 : v1190 (ix1 l) = w 19)
    (h_v1195 : v1195 (ix1 l) = w 20)
    (h_v1200 : v1200 (ix1 l) = w 21)
    (h_v1205 : v1205 (ix1 l) = w 22)
    (h_v1210 : v1210 (ix1 l) = w 23)
    (h_v1215 : v1215 (ix1 l) = w 24)
    (h_v1220 : v1220 (ix1 l) = w 25)
    (h_v1225 : v1225 (ix1 l) = w 26)
    (h_v1230 : v1230 (ix1 l) = w 27)
    (h_v1235 : v1235 (ix1 l) = w 28)
    (h_v1240 : v1240 (ix1 l) = w 29)
    (h_v1245 : v1245 (ix1 l) = w 30)
    (h_v1250 : v1250 (ix1 l) = w 31) :
    k5_pay481 v1155 v1160 v1165 v1170 v1175 v1180 v1185 v1190 v1195 v1200 v1205 v1210 v1215 v1220 v1225 v1230 v1235 v1240 v1245 v1250 v1251 v1252 v1253 v1254 v1255 v1256 (ix3 (0 : Fin 1) (0 : Fin 1) l) = tree32 w := by
  unfold k5_pay481
  refine (cast_116 _ l).trans ?_
  exact congrArg₂ FloatOps.addf (congrArg₂ FloatOps.addf (congrArg₂ FloatOps.addf (congrArg₂ FloatOps.addf (h_v1251) (h_v1252)) (congrArg₂ FloatOps.addf (h_v1253) (h_v1254))) (congrArg₂ FloatOps.addf (congrArg₂ FloatOps.addf (h_v1255) (h_v1256)) (congrArg₂ FloatOps.addf (congrArg₂ FloatOps.addf (h_v1155) (h_v1160)) (congrArg₂ FloatOps.addf (h_v1165) (h_v1170))))) (congrArg₂ FloatOps.addf (congrArg₂ FloatOps.addf (congrArg₂ FloatOps.addf (congrArg₂ FloatOps.addf (h_v1175) (h_v1180)) (congrArg₂ FloatOps.addf (h_v1185) (h_v1190))) (congrArg₂ FloatOps.addf (congrArg₂ FloatOps.addf (h_v1195) (h_v1200)) (congrArg₂ FloatOps.addf (h_v1205) (h_v1210)))) (congrArg₂ FloatOps.addf (congrArg₂ FloatOps.addf (congrArg₂ FloatOps.addf (h_v1215) (h_v1220)) (congrArg₂ FloatOps.addf (h_v1225) (h_v1230))) (congrArg₂ FloatOps.addf (congrArg₂ FloatOps.addf (h_v1235) (h_v1240)) (congrArg₂ FloatOps.addf (h_v1245) (h_v1250)))))

theorem k5_pay482_lane (v1290 : Vec F S1x1x16 .f32) (l : Fin 16) :
    k5_pay482 v1290 (ix1 l) = v1290 (ix3 (0 : Fin 1) (0 : Fin 1) l) := by
  unfold k5_pay482
  exact cast_16 v1290 l

theorem k5_pay483_lane (v1295 : Vec F S1x1x16 .f32) (l : Fin 16) :
    k5_pay483 v1295 (ix1 l) = v1295 (ix3 (0 : Fin 1) (0 : Fin 1) l) := by
  unfold k5_pay483
  exact cast_16 v1295 l

theorem k5_pay484_lane (v1300 : Vec F S1x1x16 .f32) (l : Fin 16) :
    k5_pay484 v1300 (ix1 l) = v1300 (ix3 (0 : Fin 1) (0 : Fin 1) l) := by
  unfold k5_pay484
  exact cast_16 v1300 l

theorem k5_pay485_lane (v1305 : Vec F S1x1x16 .f32) (l : Fin 16) :
    k5_pay485 v1305 (ix1 l) = v1305 (ix3 (0 : Fin 1) (0 : Fin 1) l) := by
  unfold k5_pay485
  exact cast_16 v1305 l

theorem k5_pay486_lane (v1310 : Vec F S1x1x16 .f32) (l : Fin 16) :
    k5_pay486 v1310 (ix1 l) = v1310 (ix3 (0 : Fin 1) (0 : Fin 1) l) := by
  unfold k5_pay486
  exact cast_16 v1310 l

theorem k5_pay487_lane (v1315 : Vec F S1x1x16 .f32) (l : Fin 16) :
    k5_pay487 v1315 (ix1 l) = v1315 (ix3 (0 : Fin 1) (0 : Fin 1) l) := by
  unfold k5_pay487
  exact cast_16 v1315 l

theorem k5_pay488_lane (v1320 : Vec F S1x1x16 .f32) (l : Fin 16) :
    k5_pay488 v1320 (ix1 l) = v1320 (ix3 (0 : Fin 1) (0 : Fin 1) l) := by
  unfold k5_pay488
  exact cast_16 v1320 l

theorem k5_pay489_lane (v1325 : Vec F S1x1x16 .f32) (l : Fin 16) :
    k5_pay489 v1325 (ix1 l) = v1325 (ix3 (0 : Fin 1) (0 : Fin 1) l) := by
  unfold k5_pay489
  exact cast_16 v1325 l

theorem k5_pay490_lane (v1330 : Vec F S1x1x16 .f32) (l : Fin 16) :
    k5_pay490 v1330 (ix1 l) = v1330 (ix3 (0 : Fin 1) (0 : Fin 1) l) := by
  unfold k5_pay490
  exact cast_16 v1330 l

theorem k5_pay491_lane (v1335 : Vec F S1x1x16 .f32) (l : Fin 16) :
    k5_pay491 v1335 (ix1 l) = v1335 (ix3 (0 : Fin 1) (0 : Fin 1) l) := by
  unfold k5_pay491
  exact cast_16 v1335 l

theorem k5_pay492_lane (v1340 : Vec F S1x1x16 .f32) (l : Fin 16) :
    k5_pay492 v1340 (ix1 l) = v1340 (ix3 (0 : Fin 1) (0 : Fin 1) l) := by
  unfold k5_pay492
  exact cast_16 v1340 l

theorem k5_pay493_lane (v1345 : Vec F S1x1x16 .f32) (l : Fin 16) :
    k5_pay493 v1345 (ix1 l) = v1345 (ix3 (0 : Fin 1) (0 : Fin 1) l) := by
  unfold k5_pay493
  exact cast_16 v1345 l

theorem k5_pay494_lane (v1350 : Vec F S1x1x16 .f32) (l : Fin 16) :
    k5_pay494 v1350 (ix1 l) = v1350 (ix3 (0 : Fin 1) (0 : Fin 1) l) := by
  unfold k5_pay494
  exact cast_16 v1350 l

theorem k5_pay495_lane (v1355 : Vec F S1x1x16 .f32) (l : Fin 16) :
    k5_pay495 v1355 (ix1 l) = v1355 (ix3 (0 : Fin 1) (0 : Fin 1) l) := by
  unfold k5_pay495
  exact cast_16 v1355 l

theorem k5_pay496_lane (v1360 : Vec F S1x1x16 .f32) (l : Fin 16) :
    k5_pay496 v1360 (ix1 l) = v1360 (ix3 (0 : Fin 1) (0 : Fin 1) l) := by
  unfold k5_pay496
  exact cast_16 v1360 l

theorem k5_pay497_lane (v1365 : Vec F S1x1x16 .f32) (l : Fin 16) :
    k5_pay497 v1365 (ix1 l) = v1365 (ix3 (0 : Fin 1) (0 : Fin 1) l) := by
  unfold k5_pay497
  exact cast_16 v1365 l

theorem k5_pay498_lane (v1370 : Vec F S1x1x16 .f32) (l : Fin 16) :
    k5_pay498 v1370 (ix1 l) = v1370 (ix3 (0 : Fin 1) (0 : Fin 1) l) := by
  unfold k5_pay498
  exact cast_16 v1370 l

theorem k5_pay499_lane (v1375 : Vec F S1x1x16 .f32) (l : Fin 16) :
    k5_pay499 v1375 (ix1 l) = v1375 (ix3 (0 : Fin 1) (0 : Fin 1) l) := by
  unfold k5_pay499
  exact cast_16 v1375 l

theorem k5_pay500_lane (v1380 : Vec F S1x1x16 .f32) (l : Fin 16) :
    k5_pay500 v1380 (ix1 l) = v1380 (ix3 (0 : Fin 1) (0 : Fin 1) l) := by
  unfold k5_pay500
  exact cast_16 v1380 l

theorem k5_pay501_lane (v1385 : Vec F S1x1x16 .f32) (l : Fin 16) :
    k5_pay501 v1385 (ix1 l) = v1385 (ix3 (0 : Fin 1) (0 : Fin 1) l) := by
  unfold k5_pay501
  exact cast_16 v1385 l

theorem k5_pay502_lane (v1390 : Vec F S1x1x16 .f32) (l : Fin 16) :
    k5_pay502 v1390 (ix1 l) = v1390 (ix3 (0 : Fin 1) (0 : Fin 1) l) := by
  unfold k5_pay502
  exact cast_16 v1390 l

theorem k5_pay503_lane (v1395 : Vec F S1x1x16 .f32) (l : Fin 16) :
    k5_pay503 v1395 (ix1 l) = v1395 (ix3 (0 : Fin 1) (0 : Fin 1) l) := by
  unfold k5_pay503
  exact cast_16 v1395 l

theorem k5_pay504_lane (v1400 : Vec F S1x1x16 .f32) (l : Fin 16) :
    k5_pay504 v1400 (ix1 l) = v1400 (ix3 (0 : Fin 1) (0 : Fin 1) l) := by
  unfold k5_pay504
  exact cast_16 v1400 l

theorem k5_pay505_lane (v1405 : Vec F S1x1x16 .f32) (l : Fin 16) :
    k5_pay505 v1405 (ix1 l) = v1405 (ix3 (0 : Fin 1) (0 : Fin 1) l) := by
  unfold k5_pay505
  exact cast_16 v1405 l

theorem k5_pay506_lane (v1410 : Vec F S1x1x16 .f32) (l : Fin 16) :
    k5_pay506 v1410 (ix1 l) = v1410 (ix3 (0 : Fin 1) (0 : Fin 1) l) := by
  unfold k5_pay506
  exact cast_16 v1410 l

theorem k5_pay507_lane (v1415 : Vec F S1x1x16 .f32) (l : Fin 16) :
    k5_pay507 v1415 (ix1 l) = v1415 (ix3 (0 : Fin 1) (0 : Fin 1) l) := by
  unfold k5_pay507
  exact cast_16 v1415 l

theorem k5_pay508_lane (v1420 : Vec F S1x1x16 .f32) (l : Fin 16) :
    k5_pay508 v1420 (ix1 l) = v1420 (ix3 (0 : Fin 1) (0 : Fin 1) l) := by
  unfold k5_pay508
  exact cast_16 v1420 l

theorem k5_pay509_lane (v1425 : Vec F S1x1x16 .f32) (l : Fin 16) :
    k5_pay509 v1425 (ix1 l) = v1425 (ix3 (0 : Fin 1) (0 : Fin 1) l) := by
  unfold k5_pay509
  exact cast_16 v1425 l

theorem k5_pay510_lane (v1430 : Vec F S1x1x16 .f32) (l : Fin 16) :
    k5_pay510 v1430 (ix1 l) = v1430 (ix3 (0 : Fin 1) (0 : Fin 1) l) := by
  unfold k5_pay510
  exact cast_16 v1430 l

theorem k5_pay511_lane (v1435 : Vec F S1x1x16 .f32) (l : Fin 16) :
    k5_pay511 v1435 (ix1 l) = v1435 (ix3 (0 : Fin 1) (0 : Fin 1) l) := by
  unfold k5_pay511
  exact cast_16 v1435 l

theorem k5_pay512_lane (v1440 : Vec F S1x1x16 .f32) (l : Fin 16) :
    k5_pay512 v1440 (ix1 l) = v1440 (ix3 (0 : Fin 1) (0 : Fin 1) l) := by
  unfold k5_pay512
  exact cast_16 v1440 l

theorem k5_pay513_lane (v1445 : Vec F S1x1x16 .f32) (l : Fin 16) :
    k5_pay513 v1445 (ix1 l) = v1445 (ix3 (0 : Fin 1) (0 : Fin 1) l) := by
  unfold k5_pay513
  exact cast_16 v1445 l

theorem k5_pay514_lane (v1291 : FVec F S16 .f32) (v1296 : FVec F S16 .f32) (l : Fin 16) :
    k5_pay514 v1291 v1296 (ix1 l) = FloatOps.addf (v1291 (ix1 l)) (v1296 (ix1 l)) := by
  unfold k5_pay514
  exact congrArg₂ FloatOps.addf (rfl) (rfl)

theorem k5_pay515_lane (v1301 : FVec F S16 .f32) (v1306 : FVec F S16 .f32) (l : Fin 16) :
    k5_pay515 v1301 v1306 (ix1 l) = FloatOps.addf (v1301 (ix1 l)) (v1306 (ix1 l)) := by
  unfold k5_pay515
  exact congrArg₂ FloatOps.addf (rfl) (rfl)

theorem k5_pay516_lane (v1311 : FVec F S16 .f32) (v1316 : FVec F S16 .f32) (l : Fin 16) :
    k5_pay516 v1311 v1316 (ix1 l) = FloatOps.addf (v1311 (ix1 l)) (v1316 (ix1 l)) := by
  unfold k5_pay516
  exact congrArg₂ FloatOps.addf (rfl) (rfl)

theorem k5_pay517_lane (v1321 : FVec F S16 .f32) (v1326 : FVec F S16 .f32) (l : Fin 16) :
    k5_pay517 v1321 v1326 (ix1 l) = FloatOps.addf (v1321 (ix1 l)) (v1326 (ix1 l)) := by
  unfold k5_pay517
  exact congrArg₂ FloatOps.addf (rfl) (rfl)

theorem k5_pay518_lane (v1331 : FVec F S16 .f32) (v1336 : FVec F S16 .f32) (l : Fin 16) :
    k5_pay518 v1331 v1336 (ix1 l) = FloatOps.addf (v1331 (ix1 l)) (v1336 (ix1 l)) := by
  unfold k5_pay518
  exact congrArg₂ FloatOps.addf (rfl) (rfl)

theorem k5_pay519_lane (v1341 : FVec F S16 .f32) (v1346 : FVec F S16 .f32) (l : Fin 16) :
    k5_pay519 v1341 v1346 (ix1 l) = FloatOps.addf (v1341 (ix1 l)) (v1346 (ix1 l)) := by
  unfold k5_pay519
  exact congrArg₂ FloatOps.addf (rfl) (rfl)

theorem k5_pay520_lane (v1351 : FVec F S16 .f32) (v1356 : FVec F S16 .f32) (l : Fin 16) :
    k5_pay520 v1351 v1356 (ix1 l) = FloatOps.addf (v1351 (ix1 l)) (v1356 (ix1 l)) := by
  unfold k5_pay520
  exact congrArg₂ FloatOps.addf (rfl) (rfl)

theorem k5_pay521_lane (v1361 : FVec F S16 .f32) (v1366 : FVec F S16 .f32) (l : Fin 16) :
    k5_pay521 v1361 v1366 (ix1 l) = FloatOps.addf (v1361 (ix1 l)) (v1366 (ix1 l)) := by
  unfold k5_pay521
  exact congrArg₂ FloatOps.addf (rfl) (rfl)

theorem k5_pay522_lane (v1371 : FVec F S16 .f32) (v1376 : FVec F S16 .f32) (l : Fin 16) :
    k5_pay522 v1371 v1376 (ix1 l) = FloatOps.addf (v1371 (ix1 l)) (v1376 (ix1 l)) := by
  unfold k5_pay522
  exact congrArg₂ FloatOps.addf (rfl) (rfl)

theorem k5_pay523_lane (v1381 : FVec F S16 .f32) (v1386 : FVec F S16 .f32) (l : Fin 16) :
    k5_pay523 v1381 v1386 (ix1 l) = FloatOps.addf (v1381 (ix1 l)) (v1386 (ix1 l)) := by
  unfold k5_pay523
  exact congrArg₂ FloatOps.addf (rfl) (rfl)

theorem k5_pay524_lane (v1391 : FVec F S16 .f32) (v1396 : FVec F S16 .f32) (l : Fin 16) :
    k5_pay524 v1391 v1396 (ix1 l) = FloatOps.addf (v1391 (ix1 l)) (v1396 (ix1 l)) := by
  unfold k5_pay524
  exact congrArg₂ FloatOps.addf (rfl) (rfl)

theorem k5_pay525_lane (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (l : Fin 16) :
    k5_pay525 v1401 v1406 v1411 v1416 v1421 v1426 v1431 v1436 v1441 v1446 v1447 v1448 v1449 v1450 v1451 v1452 v1453 v1454 v1455 v1456 v1457 (ix3 (0 : Fin 1) (0 : Fin 1) l) = FloatOps.addf (FloatOps.addf (FloatOps.addf (FloatOps.addf (v1447 (ix1 l)) (v1448 (ix1 l))) (FloatOps.addf (v1449 (ix1 l)) (v1450 (ix1 l)))) (FloatOps.addf (FloatOps.addf (v1451 (ix1 l)) (v1452 (ix1 l))) (FloatOps.addf (v1453 (ix1 l)) (v1454 (ix1 l))))) (FloatOps.addf (FloatOps.addf (FloatOps.addf (v1455 (ix1 l)) (v1456 (ix1 l))) (FloatOps.addf (v1457 (ix1 l)) (FloatOps.addf (v1401 (ix1 l)) (v1406 (ix1 l))))) (FloatOps.addf (FloatOps.addf (FloatOps.addf (v1411 (ix1 l)) (v1416 (ix1 l))) (FloatOps.addf (v1421 (ix1 l)) (v1426 (ix1 l)))) (FloatOps.addf (FloatOps.addf (v1431 (ix1 l)) (v1436 (ix1 l))) (FloatOps.addf (v1441 (ix1 l)) (v1446 (ix1 l)))))) := by
  unfold k5_pay525
  refine (cast_116 _ l).trans ?_
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))))

theorem k5_pay525_tree (v1401 : FVec F S16 .f32) (v1406 : FVec F S16 .f32) (v1411 : FVec F S16 .f32) (v1416 : FVec F S16 .f32) (v1421 : FVec F S16 .f32) (v1426 : FVec F S16 .f32) (v1431 : FVec F S16 .f32) (v1436 : FVec F S16 .f32) (v1441 : FVec F S16 .f32) (v1446 : FVec F S16 .f32) (v1447 : FVec F S16 .f32) (v1448 : FVec F S16 .f32) (v1449 : FVec F S16 .f32) (v1450 : FVec F S16 .f32) (v1451 : FVec F S16 .f32) (v1452 : FVec F S16 .f32) (v1453 : FVec F S16 .f32) (v1454 : FVec F S16 .f32) (v1455 : FVec F S16 .f32) (v1456 : FVec F S16 .f32) (v1457 : FVec F S16 .f32) (w : Fin 32 → F .f32) (l : Fin 16)
    (h_v1447 : v1447 (ix1 l) = FloatOps.addf (w 0) (w 1))
    (h_v1448 : v1448 (ix1 l) = FloatOps.addf (w 2) (w 3))
    (h_v1449 : v1449 (ix1 l) = FloatOps.addf (w 4) (w 5))
    (h_v1450 : v1450 (ix1 l) = FloatOps.addf (w 6) (w 7))
    (h_v1451 : v1451 (ix1 l) = FloatOps.addf (w 8) (w 9))
    (h_v1452 : v1452 (ix1 l) = FloatOps.addf (w 10) (w 11))
    (h_v1453 : v1453 (ix1 l) = FloatOps.addf (w 12) (w 13))
    (h_v1454 : v1454 (ix1 l) = FloatOps.addf (w 14) (w 15))
    (h_v1455 : v1455 (ix1 l) = FloatOps.addf (w 16) (w 17))
    (h_v1456 : v1456 (ix1 l) = FloatOps.addf (w 18) (w 19))
    (h_v1457 : v1457 (ix1 l) = FloatOps.addf (w 20) (w 21))
    (h_v1401 : v1401 (ix1 l) = w 22)
    (h_v1406 : v1406 (ix1 l) = w 23)
    (h_v1411 : v1411 (ix1 l) = w 24)
    (h_v1416 : v1416 (ix1 l) = w 25)
    (h_v1421 : v1421 (ix1 l) = w 26)
    (h_v1426 : v1426 (ix1 l) = w 27)
    (h_v1431 : v1431 (ix1 l) = w 28)
    (h_v1436 : v1436 (ix1 l) = w 29)
    (h_v1441 : v1441 (ix1 l) = w 30)
    (h_v1446 : v1446 (ix1 l) = w 31) :
    k5_pay525 v1401 v1406 v1411 v1416 v1421 v1426 v1431 v1436 v1441 v1446 v1447 v1448 v1449 v1450 v1451 v1452 v1453 v1454 v1455 v1456 v1457 (ix3 (0 : Fin 1) (0 : Fin 1) l) = tree32 w := by
  unfold k5_pay525
  refine (cast_116 _ l).trans ?_
  exact congrArg₂ FloatOps.addf (congrArg₂ FloatOps.addf (congrArg₂ FloatOps.addf (congrArg₂ FloatOps.addf (h_v1447) (h_v1448)) (congrArg₂ FloatOps.addf (h_v1449) (h_v1450))) (congrArg₂ FloatOps.addf (congrArg₂ FloatOps.addf (h_v1451) (h_v1452)) (congrArg₂ FloatOps.addf (h_v1453) (h_v1454)))) (congrArg₂ FloatOps.addf (congrArg₂ FloatOps.addf (congrArg₂ FloatOps.addf (h_v1455) (h_v1456)) (congrArg₂ FloatOps.addf (h_v1457) (congrArg₂ FloatOps.addf (h_v1401) (h_v1406)))) (congrArg₂ FloatOps.addf (congrArg₂ FloatOps.addf (congrArg₂ FloatOps.addf (h_v1411) (h_v1416)) (congrArg₂ FloatOps.addf (h_v1421) (h_v1426))) (congrArg₂ FloatOps.addf (congrArg₂ FloatOps.addf (h_v1431) (h_v1436)) (congrArg₂ FloatOps.addf (h_v1441) (h_v1446)))))

theorem k5_pay526_lane (v1486 : Vec F S1x1x16 .f32) (l : Fin 16) :
    k5_pay526 v1486 (ix1 l) = v1486 (ix3 (0 : Fin 1) (0 : Fin 1) l) := by
  unfold k5_pay526
  exact cast_16 v1486 l

theorem k5_pay527_lane (v1491 : Vec F S1x1x16 .f32) (l : Fin 16) :
    k5_pay527 v1491 (ix1 l) = v1491 (ix3 (0 : Fin 1) (0 : Fin 1) l) := by
  unfold k5_pay527
  exact cast_16 v1491 l

theorem k5_pay528_lane (v1496 : Vec F S1x1x16 .f32) (l : Fin 16) :
    k5_pay528 v1496 (ix1 l) = v1496 (ix3 (0 : Fin 1) (0 : Fin 1) l) := by
  unfold k5_pay528
  exact cast_16 v1496 l

theorem k5_pay529_lane (v1501 : Vec F S1x1x16 .f32) (l : Fin 16) :
    k5_pay529 v1501 (ix1 l) = v1501 (ix3 (0 : Fin 1) (0 : Fin 1) l) := by
  unfold k5_pay529
  exact cast_16 v1501 l

theorem k5_pay530_lane (v1506 : Vec F S1x1x16 .f32) (l : Fin 16) :
    k5_pay530 v1506 (ix1 l) = v1506 (ix3 (0 : Fin 1) (0 : Fin 1) l) := by
  unfold k5_pay530
  exact cast_16 v1506 l

theorem k5_pay531_lane (v1511 : Vec F S1x1x16 .f32) (l : Fin 16) :
    k5_pay531 v1511 (ix1 l) = v1511 (ix3 (0 : Fin 1) (0 : Fin 1) l) := by
  unfold k5_pay531
  exact cast_16 v1511 l

theorem k5_pay532_lane (v1516 : Vec F S1x1x16 .f32) (l : Fin 16) :
    k5_pay532 v1516 (ix1 l) = v1516 (ix3 (0 : Fin 1) (0 : Fin 1) l) := by
  unfold k5_pay532
  exact cast_16 v1516 l

theorem k5_pay533_lane (v1521 : Vec F S1x1x16 .f32) (l : Fin 16) :
    k5_pay533 v1521 (ix1 l) = v1521 (ix3 (0 : Fin 1) (0 : Fin 1) l) := by
  unfold k5_pay533
  exact cast_16 v1521 l

theorem k5_pay534_lane (v1526 : Vec F S1x1x16 .f32) (l : Fin 16) :
    k5_pay534 v1526 (ix1 l) = v1526 (ix3 (0 : Fin 1) (0 : Fin 1) l) := by
  unfold k5_pay534
  exact cast_16 v1526 l

theorem k5_pay535_lane (v1531 : Vec F S1x1x16 .f32) (l : Fin 16) :
    k5_pay535 v1531 (ix1 l) = v1531 (ix3 (0 : Fin 1) (0 : Fin 1) l) := by
  unfold k5_pay535
  exact cast_16 v1531 l

theorem k5_pay536_lane (v1536 : Vec F S1x1x16 .f32) (l : Fin 16) :
    k5_pay536 v1536 (ix1 l) = v1536 (ix3 (0 : Fin 1) (0 : Fin 1) l) := by
  unfold k5_pay536
  exact cast_16 v1536 l

theorem k5_pay537_lane (v1541 : Vec F S1x1x16 .f32) (l : Fin 16) :
    k5_pay537 v1541 (ix1 l) = v1541 (ix3 (0 : Fin 1) (0 : Fin 1) l) := by
  unfold k5_pay537
  exact cast_16 v1541 l

theorem k5_pay538_lane (v1546 : Vec F S1x1x16 .f32) (l : Fin 16) :
    k5_pay538 v1546 (ix1 l) = v1546 (ix3 (0 : Fin 1) (0 : Fin 1) l) := by
  unfold k5_pay538
  exact cast_16 v1546 l

theorem k5_pay539_lane (v1551 : Vec F S1x1x16 .f32) (l : Fin 16) :
    k5_pay539 v1551 (ix1 l) = v1551 (ix3 (0 : Fin 1) (0 : Fin 1) l) := by
  unfold k5_pay539
  exact cast_16 v1551 l

theorem k5_pay540_lane (v1556 : Vec F S1x1x16 .f32) (l : Fin 16) :
    k5_pay540 v1556 (ix1 l) = v1556 (ix3 (0 : Fin 1) (0 : Fin 1) l) := by
  unfold k5_pay540
  exact cast_16 v1556 l

theorem k5_pay541_lane (v1561 : Vec F S1x1x16 .f32) (l : Fin 16) :
    k5_pay541 v1561 (ix1 l) = v1561 (ix3 (0 : Fin 1) (0 : Fin 1) l) := by
  unfold k5_pay541
  exact cast_16 v1561 l

theorem k5_pay542_lane (v1566 : Vec F S1x1x16 .f32) (l : Fin 16) :
    k5_pay542 v1566 (ix1 l) = v1566 (ix3 (0 : Fin 1) (0 : Fin 1) l) := by
  unfold k5_pay542
  exact cast_16 v1566 l

theorem k5_pay543_lane (v1571 : Vec F S1x1x16 .f32) (l : Fin 16) :
    k5_pay543 v1571 (ix1 l) = v1571 (ix3 (0 : Fin 1) (0 : Fin 1) l) := by
  unfold k5_pay543
  exact cast_16 v1571 l

theorem k5_pay544_lane (v1576 : Vec F S1x1x16 .f32) (l : Fin 16) :
    k5_pay544 v1576 (ix1 l) = v1576 (ix3 (0 : Fin 1) (0 : Fin 1) l) := by
  unfold k5_pay544
  exact cast_16 v1576 l

theorem k5_pay545_lane (v1581 : Vec F S1x1x16 .f32) (l : Fin 16) :
    k5_pay545 v1581 (ix1 l) = v1581 (ix3 (0 : Fin 1) (0 : Fin 1) l) := by
  unfold k5_pay545
  exact cast_16 v1581 l

theorem k5_pay546_lane (v1586 : Vec F S1x1x16 .f32) (l : Fin 16) :
    k5_pay546 v1586 (ix1 l) = v1586 (ix3 (0 : Fin 1) (0 : Fin 1) l) := by
  unfold k5_pay546
  exact cast_16 v1586 l

theorem k5_pay547_lane (v1591 : Vec F S1x1x16 .f32) (l : Fin 16) :
    k5_pay547 v1591 (ix1 l) = v1591 (ix3 (0 : Fin 1) (0 : Fin 1) l) := by
  unfold k5_pay547
  exact cast_16 v1591 l

theorem k5_pay548_lane (v1596 : Vec F S1x1x16 .f32) (l : Fin 16) :
    k5_pay548 v1596 (ix1 l) = v1596 (ix3 (0 : Fin 1) (0 : Fin 1) l) := by
  unfold k5_pay548
  exact cast_16 v1596 l

theorem k5_pay549_lane (v1601 : Vec F S1x1x16 .f32) (l : Fin 16) :
    k5_pay549 v1601 (ix1 l) = v1601 (ix3 (0 : Fin 1) (0 : Fin 1) l) := by
  unfold k5_pay549
  exact cast_16 v1601 l

theorem k5_pay550_lane (v1606 : Vec F S1x1x16 .f32) (l : Fin 16) :
    k5_pay550 v1606 (ix1 l) = v1606 (ix3 (0 : Fin 1) (0 : Fin 1) l) := by
  unfold k5_pay550
  exact cast_16 v1606 l

theorem k5_pay551_lane (v1611 : Vec F S1x1x16 .f32) (l : Fin 16) :
    k5_pay551 v1611 (ix1 l) = v1611 (ix3 (0 : Fin 1) (0 : Fin 1) l) := by
  unfold k5_pay551
  exact cast_16 v1611 l

theorem k5_pay552_lane (v1487 : FVec F S16 .f32) (v1492 : FVec F S16 .f32) (l : Fin 16) :
    k5_pay552 v1487 v1492 (ix1 l) = FloatOps.addf (v1487 (ix1 l)) (v1492 (ix1 l)) := by
  unfold k5_pay552
  exact congrArg₂ FloatOps.addf (rfl) (rfl)

theorem k5_pay553_lane (v1497 : FVec F S16 .f32) (v1502 : FVec F S16 .f32) (l : Fin 16) :
    k5_pay553 v1497 v1502 (ix1 l) = FloatOps.addf (v1497 (ix1 l)) (v1502 (ix1 l)) := by
  unfold k5_pay553
  exact congrArg₂ FloatOps.addf (rfl) (rfl)

theorem k5_pay554_lane (v1507 : FVec F S16 .f32) (v1512 : FVec F S16 .f32) (l : Fin 16) :
    k5_pay554 v1507 v1512 (ix1 l) = FloatOps.addf (v1507 (ix1 l)) (v1512 (ix1 l)) := by
  unfold k5_pay554
  exact congrArg₂ FloatOps.addf (rfl) (rfl)

theorem k5_pay555_lane (v1517 : FVec F S16 .f32) (v1522 : FVec F S16 .f32) (l : Fin 16) :
    k5_pay555 v1517 v1522 (ix1 l) = FloatOps.addf (v1517 (ix1 l)) (v1522 (ix1 l)) := by
  unfold k5_pay555
  exact congrArg₂ FloatOps.addf (rfl) (rfl)

theorem k5_pay556_lane (v1527 : FVec F S16 .f32) (v1532 : FVec F S16 .f32) (l : Fin 16) :
    k5_pay556 v1527 v1532 (ix1 l) = FloatOps.addf (v1527 (ix1 l)) (v1532 (ix1 l)) := by
  unfold k5_pay556
  exact congrArg₂ FloatOps.addf (rfl) (rfl)

theorem k5_pay557_lane (v1537 : FVec F S16 .f32) (v1542 : FVec F S16 .f32) (l : Fin 16) :
    k5_pay557 v1537 v1542 (ix1 l) = FloatOps.addf (v1537 (ix1 l)) (v1542 (ix1 l)) := by
  unfold k5_pay557
  exact congrArg₂ FloatOps.addf (rfl) (rfl)

theorem k5_pay558_lane (v1547 : FVec F S16 .f32) (v1552 : FVec F S16 .f32) (l : Fin 16) :
    k5_pay558 v1547 v1552 (ix1 l) = FloatOps.addf (v1547 (ix1 l)) (v1552 (ix1 l)) := by
  unfold k5_pay558
  exact congrArg₂ FloatOps.addf (rfl) (rfl)

theorem k5_pay559_lane (v1557 : FVec F S16 .f32) (v1562 : FVec F S16 .f32) (l : Fin 16) :
    k5_pay559 v1557 v1562 (ix1 l) = FloatOps.addf (v1557 (ix1 l)) (v1562 (ix1 l)) := by
  unfold k5_pay559
  exact congrArg₂ FloatOps.addf (rfl) (rfl)

theorem k5_pay560_lane (v1567 : FVec F S16 .f32) (v1572 : FVec F S16 .f32) (l : Fin 16) :
    k5_pay560 v1567 v1572 (ix1 l) = FloatOps.addf (v1567 (ix1 l)) (v1572 (ix1 l)) := by
  unfold k5_pay560
  exact congrArg₂ FloatOps.addf (rfl) (rfl)

theorem k5_pay561_lane (v1577 : FVec F S16 .f32) (v1582 : FVec F S16 .f32) (l : Fin 16) :
    k5_pay561 v1577 v1582 (ix1 l) = FloatOps.addf (v1577 (ix1 l)) (v1582 (ix1 l)) := by
  unfold k5_pay561
  exact congrArg₂ FloatOps.addf (rfl) (rfl)

theorem k5_pay562_lane (v1587 : FVec F S16 .f32) (v1592 : FVec F S16 .f32) (l : Fin 16) :
    k5_pay562 v1587 v1592 (ix1 l) = FloatOps.addf (v1587 (ix1 l)) (v1592 (ix1 l)) := by
  unfold k5_pay562
  exact congrArg₂ FloatOps.addf (rfl) (rfl)

theorem k5_pay563_lane (v1597 : FVec F S16 .f32) (v1602 : FVec F S16 .f32) (l : Fin 16) :
    k5_pay563 v1597 v1602 (ix1 l) = FloatOps.addf (v1597 (ix1 l)) (v1602 (ix1 l)) := by
  unfold k5_pay563
  exact congrArg₂ FloatOps.addf (rfl) (rfl)

theorem k5_pay564_lane (v1607 : FVec F S16 .f32) (v1612 : FVec F S16 .f32) (l : Fin 16) :
    k5_pay564 v1607 v1612 (ix1 l) = FloatOps.addf (v1607 (ix1 l)) (v1612 (ix1 l)) := by
  unfold k5_pay564
  exact congrArg₂ FloatOps.addf (rfl) (rfl)

theorem k5_pay565_lane (v1616 : Vec F S1x1x16 .f32) (v1621 : Vec F S1x1x16 .f32) (l : Fin 16) :
    k5_pay565 v1616 v1621 (ix1 l) = FloatOps.addf (v1616 (ix3 (0 : Fin 1) (0 : Fin 1) l)) (v1621 (ix3 (0 : Fin 1) (0 : Fin 1) l)) := by
  unfold k5_pay565
  exact congrArg₂ FloatOps.addf (cast_16 v1616 l) (cast_16 v1621 l)

theorem k5_pay566_lane (v1626 : Vec F S1x1x16 .f32) (v1631 : Vec F S1x1x16 .f32) (l : Fin 16) :
    k5_pay566 v1626 v1631 (ix1 l) = FloatOps.addf (v1626 (ix3 (0 : Fin 1) (0 : Fin 1) l)) (v1631 (ix3 (0 : Fin 1) (0 : Fin 1) l)) := by
  unfold k5_pay566
  exact congrArg₂ FloatOps.addf (cast_16 v1626 l) (cast_16 v1631 l)

theorem k5_pay567_lane (v1636 : Vec F S1x1x16 .f32) (v1641 : Vec F S1x1x16 .f32) (l : Fin 16) :
    k5_pay567 v1636 v1641 (ix1 l) = FloatOps.addf (v1636 (ix3 (0 : Fin 1) (0 : Fin 1) l)) (v1641 (ix3 (0 : Fin 1) (0 : Fin 1) l)) := by
  unfold k5_pay567
  exact congrArg₂ FloatOps.addf (cast_16 v1636 l) (cast_16 v1641 l)

theorem k5_pay568_lane (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (l : Fin 16) :
    k5_pay568 v1643 v1644 v1645 v1646 v1647 v1648 v1649 v1650 v1651 v1652 v1653 v1654 v1655 v1656 v1657 v1658 (ix1 l) = FloatOps.addf (FloatOps.addf (FloatOps.addf (FloatOps.addf (v1643 (ix1 l)) (v1644 (ix1 l))) (FloatOps.addf (v1645 (ix1 l)) (v1646 (ix1 l)))) (FloatOps.addf (FloatOps.addf (v1647 (ix1 l)) (v1648 (ix1 l))) (FloatOps.addf (v1649 (ix1 l)) (v1650 (ix1 l))))) (FloatOps.addf (FloatOps.addf (FloatOps.addf (v1651 (ix1 l)) (v1652 (ix1 l))) (FloatOps.addf (v1653 (ix1 l)) (v1654 (ix1 l)))) (FloatOps.addf (FloatOps.addf (v1655 (ix1 l)) (v1656 (ix1 l))) (FloatOps.addf (v1657 (ix1 l)) (v1658 (ix1 l))))) := by
  unfold k5_pay568
  exact congrArg₂ FloatOps.addf (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl)))) (congrArg₂ FloatOps.addf (congrArg₂ FloatOps.addf (congrArg₂ FloatOps.addf (rfl) (rfl)) (congrArg₂ FloatOps.addf (rfl) (rfl))) (congrArg₂ FloatOps.addf (congrArg₂ FloatOps.addf (rfl) (rfl)) (congrArg₂ FloatOps.addf (rfl) (rfl))))

theorem k5_pay568_tree (v1643 : FVec F S16 .f32) (v1644 : FVec F S16 .f32) (v1645 : FVec F S16 .f32) (v1646 : FVec F S16 .f32) (v1647 : FVec F S16 .f32) (v1648 : FVec F S16 .f32) (v1649 : FVec F S16 .f32) (v1650 : FVec F S16 .f32) (v1651 : FVec F S16 .f32) (v1652 : FVec F S16 .f32) (v1653 : FVec F S16 .f32) (v1654 : FVec F S16 .f32) (v1655 : FVec F S16 .f32) (v1656 : FVec F S16 .f32) (v1657 : FVec F S16 .f32) (v1658 : FVec F S16 .f32) (w : Fin 32 → F .f32) (l : Fin 16)
    (h_v1643 : v1643 (ix1 l) = FloatOps.addf (w 0) (w 1))
    (h_v1644 : v1644 (ix1 l) = FloatOps.addf (w 2) (w 3))
    (h_v1645 : v1645 (ix1 l) = FloatOps.addf (w 4) (w 5))
    (h_v1646 : v1646 (ix1 l) = FloatOps.addf (w 6) (w 7))
    (h_v1647 : v1647 (ix1 l) = FloatOps.addf (w 8) (w 9))
    (h_v1648 : v1648 (ix1 l) = FloatOps.addf (w 10) (w 11))
    (h_v1649 : v1649 (ix1 l) = FloatOps.addf (w 12) (w 13))
    (h_v1650 : v1650 (ix1 l) = FloatOps.addf (w 14) (w 15))
    (h_v1651 : v1651 (ix1 l) = FloatOps.addf (w 16) (w 17))
    (h_v1652 : v1652 (ix1 l) = FloatOps.addf (w 18) (w 19))
    (h_v1653 : v1653 (ix1 l) = FloatOps.addf (w 20) (w 21))
    (h_v1654 : v1654 (ix1 l) = FloatOps.addf (w 22) (w 23))
    (h_v1655 : v1655 (ix1 l) = FloatOps.addf (w 24) (w 25))
    (h_v1656 : v1656 (ix1 l) = FloatOps.addf (w 26) (w 27))
    (h_v1657 : v1657 (ix1 l) = FloatOps.addf (w 28) (w 29))
    (h_v1658 : v1658 (ix1 l) = FloatOps.addf (w 30) (w 31)) :
    k5_pay568 v1643 v1644 v1645 v1646 v1647 v1648 v1649 v1650 v1651 v1652 v1653 v1654 v1655 v1656 v1657 v1658 (ix1 l) = tree32 w := by
  unfold k5_pay568
  exact congrArg₂ FloatOps.addf (congrArg₂ FloatOps.addf (congrArg₂ FloatOps.addf (congrArg₂ FloatOps.addf (h_v1643) (h_v1644)) (congrArg₂ FloatOps.addf (h_v1645) (h_v1646))) (congrArg₂ FloatOps.addf (congrArg₂ FloatOps.addf (h_v1647) (h_v1648)) (congrArg₂ FloatOps.addf (h_v1649) (h_v1650)))) (congrArg₂ FloatOps.addf (congrArg₂ FloatOps.addf (congrArg₂ FloatOps.addf (h_v1651) (h_v1652)) (congrArg₂ FloatOps.addf (h_v1653) (h_v1654))) (congrArg₂ FloatOps.addf (congrArg₂ FloatOps.addf (h_v1655) (h_v1656)) (congrArg₂ FloatOps.addf (h_v1657) (h_v1658))))

theorem k5_pay569_lane (v1673 : FVec F S16 .f32) (l : Fin 16) :
    k5_pay569 v1673 (ix3 (0 : Fin 1) (0 : Fin 1) l) = v1673 (ix1 l) := by
  unfold k5_pay569
  exact cast_116 v1673 l

theorem k5_pay570_lane (v1673 : FVec F S16 .f32) (l : Fin 16) :
    k5_pay570 v1673 (ix3 (0 : Fin 1) (0 : Fin 1) l) = v1673 (ix1 l) := by
  unfold k5_pay570
  exact cast_116 v1673 l

end Cert.Proof.KB

end
-- ==== Proof.ScTree0C2K.lean ====
import proofs.«205366_g3083786518796_cont_9to1_852_38_alg».proof.Proof.ScTree5K

/-!
# The third SparseCore kernel's summing payloads

The third kernel is the first kernel's text printed again, so its payloads have the same lane and tree lemmas.
-/
-- ==== Proof.BodyInnerC2K.lean ====
import proofs.«205366_g3083786518796_cont_9to1_852_38_alg».proof.Proof.BodyLemmasC2K
import proofs.«205366_g3083786518796_cont_9to1_852_38_alg».proof.Proof.ScTree0C2K
import Idealize.ShloMosaic.Lib.Writes
import Idealize.ShloMosaic.Lib.ValueIdx

noncomputable section

/-!
# One trip of a tile's inner loop, with what it stores named

A trip of the inner loop takes one row `r` of one slot of the output scratch: for each of the eight groups of 16
lanes it loads the 32 gathered rows `32·r … 32·r + 31` of the same slot of the row scratch at those lanes, adds them in
five levels of pairwise sums, and stores the 16 sums.  After the trip the output scratch holds, at row `r` of that
slot, lane by lane the balanced tree of the 32 gathered numbers, and is unchanged everywhere else; the row scratch is
only read.
-/

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KB (tree32)

variable {F : FTy → Type}

variable [FloatOps F]
variable {U : Type} [URA U] [CountersIn U]

local notation "𝕄" => MT nD τ sig (HIx 3) (Elt F) ℕ U ℕ
local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

section Inner
variable (d : Dev nD) (L : grid5.Coords)

theorem trips_t2 : k5_t2_loop.trips = 4 := by decide
theorem trips_t3 : k5_t3_loop.trips = 4 := by decide
theorem k2_lt (k2 : Fin k5_t2_loop.trips) : k2.val < 4 := lt_of_lt_of_eq k2.isLt trips_t2
theorem k3_lt (k3 : Fin k5_t3_loop.trips) : k3.val < 4 := lt_of_lt_of_eq k3.isLt trips_t3

/-- An index of a [1,1,16] block is its lane. -/
theorem exists_lane (x : S1x1x16.Idx) : ∃ l : Fin 16, x = ix3 (0 : Fin 1) (0 : Fin 1) l := by
  refine ⟨x 2, ?_⟩
  funext a
  match a with
  | ⟨0, _⟩ => exact (Subsingleton.elim (α := Fin 1) _ _)
  | ⟨1, _⟩ => exact (Subsingleton.elim (α := Fin 1) _ _)
  | ⟨2, _⟩ => rfl

/-- A 16-lane load of the row scratch at slot `s`, row `R`, lanes from `c`: its lane `l` is the scratch's entry there. -/
theorem ld_lane (o : Fin 3 → Nat) (s : Fin 2) (R c : Nat) (hR : R < 128) (hc : c + 16 ≤ 128) (ho : o = ![s.val, R, c])
    (h : ∀ a, o a + S1x1x16.size a ≤ S2x128x128.size a) (fr : Buf (Elt F) ((V d (cV L) (jV L)).loc cc5_scratch1)) (l : Fin 16) :
    View.readAt (Elt F) (Memref.whole cc5_scratch1).view (Rect.unit (s := S2x128x128) o S1x1x16.size h).toLoadRect fr
        (ix3 (0 : Fin 1) (0 : Fin 1) l)
      = fr (ix3 s (⟨R, hR⟩ : Fin 128) (⟨c + l.val, by omega⟩ : Fin 128)) := by
  subst ho
  rw [View.readAt_apply]
  show fr ((Rect.unit (s := S2x128x128) ![s.val, R, c] S1x1x16.size h).toLoadRect.idx (ix3 (0 : Fin 1) (0 : Fin 1) l)) = _
  refine congrArg fr ?_
  funext a; apply Fin.ext
  match a with
  | ⟨0, _⟩ => show s.val + 1 * 0 = s.val; omega
  | ⟨1, _⟩ => show R + 1 * 0 = R; omega
  | ⟨2, _⟩ => show c + 1 * l.val = c + l.val; omega

/-- What row `r` of slot `s` of the output scratch is to hold at an index `y` of that row: the tree of the 32 gathered
    numbers, rows `32·r …` of slot `s` of the row scratch at `y`'s lane. -/
def scrSum (s : Fin 2) (fr : Buf (Elt F) ((V d (cV L) (jV L)).loc cc5_scratch1)) (r : Nat) (hr : r < 4) (y : S2x4x128.Idx) : F .f32 :=
  tree32 fun k : Fin 32 => fr (ix3 s (⟨32 * r + k.val, by omega⟩ : Fin 128) (y 2))

set_option maxHeartbeats 4000000 in
/-- Trip `kk` of slot 0's inner loop: the row scratch is only read; the output scratch ends with row `kk` of
    slot 0 at the trees of the 32 gathered rows, lane by lane, and is unchanged off that row.  (The contents are read
    through the whole buffer's view, `View.read … f = f`.) -/
theorem inner_trip0 (k : Fin k5_t1_loop.trips) (kk : Fin k5_t2_loop.trips)
    (fr : Buf (Elt F) ((V d (cV L) (jV L)).loc cc5_scratch1)) (fob : Buf (Elt F) ((V d (cV L) (jV L)).loc cc5_scratch2))
    (v2 : BitVec 32) :
    iprop(((rwV).view.loc (V d (cV L) (jV L)) ↦[Finset.univ \ (rwK1).view.set]{fullShare} fr)
      ∗ ((obV).view.loc (V d (cV L) (jV L)) ↦[Finset.univ \ (obK1).view.set]{fullShare} fob))
      ⊢ (wp frame (wpE (defs₀ (F := F)) 𝒱₀ (V d (cV L) (jV L)) none) Set.univ
          (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k kk ())
          fun _ => iprop(((rwV).view.loc (V d (cV L) (jV L)) ↦[Finset.univ \ (rwK1).view.set]{fullShare} fr)
            ∗ ∃ fob'' : Buf (Elt F) ((V d (cV L) (jV L)).loc cc5_scratch2), ((obV).view.loc (V d (cV L) (jV L)) ↦[Finset.univ \ (obK1).view.set]{fullShare} fob'')
              ∗ ⌜(∀ (g : Fin 8) (l : Fin 16), View.read (Elt F) (Memref.whole cc5_scratch2).view fob'' (ix3 (0 : Fin 2) (⟨kk.val, k2_lt kk⟩ : Fin 4) (⟨16 * g.val + l.val, by omega⟩ : Fin 128))
                    = scrSum d L (0 : Fin 2) fr kk.val (k2_lt kk) (ix3 (0 : Fin 2) (⟨kk.val, k2_lt kk⟩ : Fin 4) (⟨16 * g.val + l.val, by omega⟩ : Fin 128)))
                ∧ (∀ y : S2x4x128.Idx, ¬((y 0).val = 0 ∧ (y 1).val = kk.val) →
                    View.read (Elt F) (Memref.whole cc5_scratch2).view fob'' y = View.read (Elt F) (Memref.whole cc5_scratch2).view fob y)⌝) : sProp 𝕄) := by
  iintro ⟨Hrw, Hob⟩
  unfold k5_t2_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc5_scratch2).view fob (scrSum d L (0 : Fin 2) fr kk.val (k2_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (0 : Fin 2) fr kk.val (k2_lt kk) ((Rect.unit (s := S2x4x128) (k5_off19 kk) S1x1x16.size (k5_off19_inb kk)).emb (ix3 (0 : Fin 1) (0 : Fin 1) l'))
        simp only [Cert.Proof.KB.k5_pay569_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off18 kk (BitVec.ofNat 32 k.val)) S1x1x16.size (k5_off18_inb kk k)).toLoadRect fr (ix3 (0 : Fin 1) (0 : Fin 1) l')) rfl ?_
        refine (congrArg tree32 (funext fun k => ld_lane d L _ (0 : Fin 2) (32 * kk.val + k.val) 112 (by have := k2_lt kk; omega) (by omega) (k5_off18_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 112 + l'.val = k5_off19 kk 2 + 1 * l'.val
        rw [k5_off19_eq]
        show 112 + l'.val = 112 + 1 * l'.val
        omega
      · -- lane group 6: lanes 96 … 111
        intro x
        obtain ⟨l', rfl⟩ := exists_lane x
        show _ = scrSum d L (0 : Fin 2) fr kk.val (k2_lt kk) ((Rect.unit (s := S2x4x128) (k5_off17 kk) S1x1x16.size (k5_off17_inb kk)).emb (ix3 (0 : Fin 1) (0 : Fin 1) l'))
        simp only [Cert.Proof.KB.k5_pay241_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off16 kk (BitVec.ofNat 32 k.val)) S1x1x16.size (k5_off16_inb kk k)).toLoadRect fr (ix3 (0 : Fin 1) (0 : Fin 1) l')) rfl ?_
        refine (congrArg tree32 (funext fun k => ld_lane d L _ (0 : Fin 2) (32 * kk.val + k.val) 96 (by have := k2_lt kk; omega) (by omega) (k5_off16_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 96 + l'.val = k5_off17 kk 2 + 1 * l'.val
        rw [k5_off17_eq]
        show 96 + l'.val = 96 + 1 * l'.val
        omega
      · -- lane group 5: lanes 80 … 95
        intro x
        obtain ⟨l', rfl⟩ := exists_lane x
        show _ = scrSum d L (0 : Fin 2) fr kk.val (k2_lt kk) ((Rect.unit (s := S2x4x128) (k5_off15 kk) S1x1x16.size (k5_off15_inb kk)).emb (ix3 (0 : Fin 1) (0 : Fin 1) l'))
        simp only [Cert.Proof.KB.k5_pay197_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off14 kk (BitVec.ofNat 32 k.val)) S1x1x16.size (k5_off14_inb kk k)).toLoadRect fr (ix3 (0 : Fin 1) (0 : Fin 1) l')) rfl ?_
        refine (congrArg tree32 (funext fun k => ld_lane d L _ (0 : Fin 2) (32 * kk.val + k.val) 80 (by have := k2_lt kk; omega) (by omega) (k5_off14_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 80 + l'.val = k5_off15 kk 2 + 1 * l'.val
        rw [k5_off15_eq]
        show 80 + l'.val = 80 + 1 * l'.val
        omega
      · -- lane group 4: lanes 64 … 79
        intro x
        obtain ⟨l', rfl⟩ := exists_lane x
        show _ = scrSum d L (0 : Fin 2) fr kk.val (k2_lt kk) ((Rect.unit (s := S2x4x128) (k5_off13 kk) S1x1x16.size (k5_off13_inb kk)).emb (ix3 (0 : Fin 1) (0 : Fin 1) l'))
        simp only [Cert.Proof.KB.k5_pay158_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off12 kk (BitVec.ofNat 32 k.val)) S1x1x16.size (k5_off12_inb kk k)).toLoadRect fr (ix3 (0 : Fin 1) (0 : Fin 1) l')) rfl ?_
        refine (congrArg tree32 (funext fun k => ld_lane d L _ (0 : Fin 2) (32 * kk.val + k.val) 64 (by have := k2_lt kk; omega) (by omega) (k5_off12_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 64 + l'.val = k5_off13 kk 2 + 1 * l'.val
        rw [k5_off13_eq]
        show 64 + l'.val = 64 + 1 * l'.val
        omega
      · -- lane group 3: lanes 48 … 63
        intro x
        obtain ⟨l', rfl⟩ := exists_lane x
        show _ = scrSum d L (0 : Fin 2) fr kk.val (k2_lt kk) ((Rect.unit (s := S2x4x128) (k5_off11 kk) S1x1x16.size (k5_off11_inb kk)).emb (ix3 (0 : Fin 1) (0 : Fin 1) l'))
        simp only [Cert.Proof.KB.k5_pay124_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off10 kk (BitVec.ofNat 32 k.val)) S1x1x16.size (k5_off10_inb kk k)).toLoadRect fr (ix3 (0 : Fin 1) (0 : Fin 1) l')) rfl ?_
        refine (congrArg tree32 (funext fun k => ld_lane d L _ (0 : Fin 2) (32 * kk.val + k.val) 48 (by have := k2_lt kk; omega) (by omega) (k5_off10_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 48 + l'.val = k5_off11 kk 2 + 1 * l'.val
        rw [k5_off11_eq]
        show 48 + l'.val = 48 + 1 * l'.val
        omega
      · -- lane group 2: lanes 32 … 47
        intro x
        obtain ⟨l', rfl⟩ := exists_lane x
        show _ = scrSum d L (0 : Fin 2) fr kk.val (k2_lt kk) ((Rect.unit (s := S2x4x128) (k5_off9 kk) S1x1x16.size (k5_off9_inb kk)).emb (ix3 (0 : Fin 1) (0 : Fin 1) l'))
        simp only [Cert.Proof.KB.k5_pay92_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off8 kk (BitVec.ofNat 32 k.val)) S1x1x16.size (k5_off8_inb kk k)).toLoadRect fr (ix3 (0 : Fin 1) (0 : Fin 1) l')) rfl ?_
        refine (congrArg tree32 (funext fun k => ld_lane d L _ (0 : Fin 2) (32 * kk.val + k.val) 32 (by have := k2_lt kk; omega) (by omega) (k5_off8_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 32 + l'.val = k5_off9 kk 2 + 1 * l'.val
        rw [k5_off9_eq]
        show 32 + l'.val = 32 + 1 * l'.val
        omega
      · -- lane group 1: lanes 16 … 31
        intro x
        obtain ⟨l', rfl⟩ := exists_lane x
        show _ = scrSum d L (0 : Fin 2) fr kk.val (k2_lt kk) ((Rect.unit (s := S2x4x128) (k5_off7 kk) S1x1x16.size (k5_off7_inb kk)).emb (ix3 (0 : Fin 1) (0 : Fin 1) l'))
        simp only [Cert.Proof.KB.k5_pay61_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off6 kk (BitVec.ofNat 32 k.val)) S1x1x16.size (k5_off6_inb kk k)).toLoadRect fr (ix3 (0 : Fin 1) (0 : Fin 1) l')) rfl ?_
        refine (congrArg tree32 (funext fun k => ld_lane d L _ (0 : Fin 2) (32 * kk.val + k.val) 16 (by have := k2_lt kk; omega) (by omega) (k5_off6_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 16 + l'.val = k5_off7 kk 2 + 1 * l'.val
        rw [k5_off7_eq]
        show 16 + l'.val = 16 + 1 * l'.val
        omega
      · -- lane group 0: lanes 0 … 15
        intro x
        obtain ⟨l', rfl⟩ := exists_lane x
        show _ = scrSum d L (0 : Fin 2) fr kk.val (k2_lt kk) ((Rect.unit (s := S2x4x128) (k5_off5 kk) S1x1x16.size (k5_off5_inb kk)).emb (ix3 (0 : Fin 1) (0 : Fin 1) l'))
        simp only [Cert.Proof.KB.k5_pay30_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off4 kk (BitVec.ofNat 32 k.val)) S1x1x16.size (k5_off4_inb kk k)).toLoadRect fr (ix3 (0 : Fin 1) (0 : Fin 1) l')) rfl ?_
        refine (congrArg tree32 (funext fun k => ld_lane d L _ (0 : Fin 2) (32 * kk.val + k.val) 0 (by have := k2_lt kk; omega) (by omega) (k5_off4_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 0 + l'.val = k5_off5 kk 2 + 1 * l'.val
        rw [k5_off5_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (0 : Fin 2) (⟨kk.val, k2_lt kk⟩ : Fin 4) (⟨16 * 0 + l.val, by omega⟩ : Fin 128)) ∈ (Rect.unit (s := S2x4x128) (k5_off5 kk) S1x1x16.size (k5_off5_inb kk)).set
        rw [Rect.mem_set_unit, k5_off5_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (0 : Fin 2) (⟨kk.val, k2_lt kk⟩ : Fin 4) (⟨16 * 1 + l.val, by omega⟩ : Fin 128)) ∈ (Rect.unit (s := S2x4x128) (k5_off7 kk) S1x1x16.size (k5_off7_inb kk)).set
        rw [Rect.mem_set_unit, k5_off7_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (0 : Fin 2) (⟨kk.val, k2_lt kk⟩ : Fin 4) (⟨16 * 2 + l.val, by omega⟩ : Fin 128)) ∈ (Rect.unit (s := S2x4x128) (k5_off9 kk) S1x1x16.size (k5_off9_inb kk)).set
        rw [Rect.mem_set_unit, k5_off9_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (0 : Fin 2) (⟨kk.val, k2_lt kk⟩ : Fin 4) (⟨16 * 3 + l.val, by omega⟩ : Fin 128)) ∈ (Rect.unit (s := S2x4x128) (k5_off11 kk) S1x1x16.size (k5_off11_inb kk)).set
        rw [Rect.mem_set_unit, k5_off11_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (0 : Fin 2) (⟨kk.val, k2_lt kk⟩ : Fin 4) (⟨16 * 4 + l.val, by omega⟩ : Fin 128)) ∈ (Rect.unit (s := S2x4x128) (k5_off13 kk) S1x1x16.size (k5_off13_inb kk)).set
        rw [Rect.mem_set_unit, k5_off13_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (0 : Fin 2) (⟨kk.val, k2_lt kk⟩ : Fin 4) (⟨16 * 5 + l.val, by omega⟩ : Fin 128)) ∈ (Rect.unit (s := S2x4x128) (k5_off15 kk) S1x1x16.size (k5_off15_inb kk)).set
        rw [Rect.mem_set_unit, k5_off15_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (0 : Fin 2) (⟨kk.val, k2_lt kk⟩ : Fin 4) (⟨16 * 6 + l.val, by omega⟩ : Fin 128)) ∈ (Rect.unit (s := S2x4x128) (k5_off17 kk) S1x1x16.size (k5_off17_inb kk)).set
        rw [Rect.mem_set_unit, k5_off17_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (0 : Fin 2) (⟨kk.val, k2_lt kk⟩ : Fin 4) (⟨16 * 7 + l.val, by omega⟩ : Fin 128)) ∈ (Rect.unit (s := S2x4x128) (k5_off19 kk) S1x1x16.size (k5_off19_inb kk)).set
        rw [Rect.mem_set_unit, k5_off19_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc5_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k5_off19 kk) S1x1x16.size (k5_off19_inb kk)).set := hm
      rw [Rect.mem_set_unit, k5_off19_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 6
      intro hm
      have hm' : y ∈ (Rect.unit (s := S2x4x128) (k5_off17 kk) S1x1x16.size (k5_off17_inb kk)).set := hm
      rw [Rect.mem_set_unit, k5_off17_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 5
      intro hm
      have hm' : y ∈ (Rect.unit (s := S2x4x128) (k5_off15 kk) S1x1x16.size (k5_off15_inb kk)).set := hm
      rw [Rect.mem_set_unit, k5_off15_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 4
      intro hm
      have hm' : y ∈ (Rect.unit (s := S2x4x128) (k5_off13 kk) S1x1x16.size (k5_off13_inb kk)).set := hm
      rw [Rect.mem_set_unit, k5_off13_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 3
      intro hm
      have hm' : y ∈ (Rect.unit (s := S2x4x128) (k5_off11 kk) S1x1x16.size (k5_off11_inb kk)).set := hm
      rw [Rect.mem_set_unit, k5_off11_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 2
      intro hm
      have hm' : y ∈ (Rect.unit (s := S2x4x128) (k5_off9 kk) S1x1x16.size (k5_off9_inb kk)).set := hm
      rw [Rect.mem_set_unit, k5_off9_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 1
      intro hm
      have hm' : y ∈ (Rect.unit (s := S2x4x128) (k5_off7 kk) S1x1x16.size (k5_off7_inb kk)).set := hm
      rw [Rect.mem_set_unit, k5_off7_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 0
      intro hm
      have hm' : y ∈ (Rect.unit (s := S2x4x128) (k5_off5 kk) S1x1x16.size (k5_off5_inb kk)).set := hm
      rw [Rect.mem_set_unit, k5_off5_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩

set_option maxHeartbeats 4000000 in
/-- Trip `kk` of slot 0's inner loop while the output scratch is still held whole: the row scratch is only read; the output scratch ends with row `kk` of
    slot 0 at the trees of the 32 gathered rows, lane by lane, and is unchanged off that row.  (The contents are read
    through the whole buffer's view, `View.read … f = f`.) -/
theorem inner_trip0_first (k : Fin k5_t1_loop.trips) (kk : Fin k5_t2_loop.trips)
    (fr : Buf (Elt F) ((V d (cV L) (jV L)).loc cc5_scratch1)) (fob : Buf (Elt F) ((V d (cV L) (jV L)).loc cc5_scratch2))
    (v2 : BitVec 32) :
    iprop(((rwV).view.loc (V d (cV L) (jV L)) ↦[Finset.univ \ (rwK1).view.set]{fullShare} fr)
      ∗ ((obV).view.loc (V d (cV L) (jV L)) ↦{fullShare} fob))
      ⊢ (wp frame (wpE (defs₀ (F := F)) 𝒱₀ (V d (cV L) (jV L)) none) Set.univ
          (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k kk ())
          fun _ => iprop(((rwV).view.loc (V d (cV L) (jV L)) ↦[Finset.univ \ (rwK1).view.set]{fullShare} fr)
            ∗ ∃ fob'' : Buf (Elt F) ((V d (cV L) (jV L)).loc cc5_scratch2), ((obV).view.loc (V d (cV L) (jV L)) ↦{fullShare} fob'')
              ∗ ⌜(∀ (g : Fin 8) (l : Fin 16), View.read (Elt F) (Memref.whole cc5_scratch2).view fob'' (ix3 (0 : Fin 2) (⟨kk.val, k2_lt kk⟩ : Fin 4) (⟨16 * g.val + l.val, by omega⟩ : Fin 128))
                    = scrSum d L (0 : Fin 2) fr kk.val (k2_lt kk) (ix3 (0 : Fin 2) (⟨kk.val, k2_lt kk⟩ : Fin 4) (⟨16 * g.val + l.val, by omega⟩ : Fin 128)))
                ∧ (∀ y : S2x4x128.Idx, ¬((y 0).val = 0 ∧ (y 1).val = kk.val) →
                    View.read (Elt F) (Memref.whole cc5_scratch2).view fob'' y = View.read (Elt F) (Memref.whole cc5_scratch2).view fob y)⌝) : sProp 𝕄) := by
  iintro ⟨Hrw, Hob⟩
  unfold k5_t2_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc5_scratch2).view fob (scrSum d L (0 : Fin 2) fr kk.val (k2_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (0 : Fin 2) fr kk.val (k2_lt kk) ((Rect.unit (s := S2x4x128) (k5_off19 kk) S1x1x16.size (k5_off19_inb kk)).emb (ix3 (0 : Fin 1) (0 : Fin 1) l'))
        simp only [Cert.Proof.KB.k5_pay569_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off18 kk (BitVec.ofNat 32 k.val)) S1x1x16.size (k5_off18_inb kk k)).toLoadRect fr (ix3 (0 : Fin 1) (0 : Fin 1) l')) rfl ?_
        refine (congrArg tree32 (funext fun k => ld_lane d L _ (0 : Fin 2) (32 * kk.val + k.val) 112 (by have := k2_lt kk; omega) (by omega) (k5_off18_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 112 + l'.val = k5_off19 kk 2 + 1 * l'.val
        rw [k5_off19_eq]
        show 112 + l'.val = 112 + 1 * l'.val
        omega
      · -- lane group 6: lanes 96 … 111
        intro x
        obtain ⟨l', rfl⟩ := exists_lane x
        show _ = scrSum d L (0 : Fin 2) fr kk.val (k2_lt kk) ((Rect.unit (s := S2x4x128) (k5_off17 kk) S1x1x16.size (k5_off17_inb kk)).emb (ix3 (0 : Fin 1) (0 : Fin 1) l'))
        simp only [Cert.Proof.KB.k5_pay241_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off16 kk (BitVec.ofNat 32 k.val)) S1x1x16.size (k5_off16_inb kk k)).toLoadRect fr (ix3 (0 : Fin 1) (0 : Fin 1) l')) rfl ?_
        refine (congrArg tree32 (funext fun k => ld_lane d L _ (0 : Fin 2) (32 * kk.val + k.val) 96 (by have := k2_lt kk; omega) (by omega) (k5_off16_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 96 + l'.val = k5_off17 kk 2 + 1 * l'.val
        rw [k5_off17_eq]
        show 96 + l'.val = 96 + 1 * l'.val
        omega
      · -- lane group 5: lanes 80 … 95
        intro x
        obtain ⟨l', rfl⟩ := exists_lane x
        show _ = scrSum d L (0 : Fin 2) fr kk.val (k2_lt kk) ((Rect.unit (s := S2x4x128) (k5_off15 kk) S1x1x16.size (k5_off15_inb kk)).emb (ix3 (0 : Fin 1) (0 : Fin 1) l'))
        simp only [Cert.Proof.KB.k5_pay197_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off14 kk (BitVec.ofNat 32 k.val)) S1x1x16.size (k5_off14_inb kk k)).toLoadRect fr (ix3 (0 : Fin 1) (0 : Fin 1) l')) rfl ?_
        refine (congrArg tree32 (funext fun k => ld_lane d L _ (0 : Fin 2) (32 * kk.val + k.val) 80 (by have := k2_lt kk; omega) (by omega) (k5_off14_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 80 + l'.val = k5_off15 kk 2 + 1 * l'.val
        rw [k5_off15_eq]
        show 80 + l'.val = 80 + 1 * l'.val
        omega
      · -- lane group 4: lanes 64 … 79
        intro x
        obtain ⟨l', rfl⟩ := exists_lane x
        show _ = scrSum d L (0 : Fin 2) fr kk.val (k2_lt kk) ((Rect.unit (s := S2x4x128) (k5_off13 kk) S1x1x16.size (k5_off13_inb kk)).emb (ix3 (0 : Fin 1) (0 : Fin 1) l'))
        simp only [Cert.Proof.KB.k5_pay158_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off12 kk (BitVec.ofNat 32 k.val)) S1x1x16.size (k5_off12_inb kk k)).toLoadRect fr (ix3 (0 : Fin 1) (0 : Fin 1) l')) rfl ?_
        refine (congrArg tree32 (funext fun k => ld_lane d L _ (0 : Fin 2) (32 * kk.val + k.val) 64 (by have := k2_lt kk; omega) (by omega) (k5_off12_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 64 + l'.val = k5_off13 kk 2 + 1 * l'.val
        rw [k5_off13_eq]
        show 64 + l'.val = 64 + 1 * l'.val
        omega
      · -- lane group 3: lanes 48 … 63
        intro x
        obtain ⟨l', rfl⟩ := exists_lane x
        show _ = scrSum d L (0 : Fin 2) fr kk.val (k2_lt kk) ((Rect.unit (s := S2x4x128) (k5_off11 kk) S1x1x16.size (k5_off11_inb kk)).emb (ix3 (0 : Fin 1) (0 : Fin 1) l'))
        simp only [Cert.Proof.KB.k5_pay124_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off10 kk (BitVec.ofNat 32 k.val)) S1x1x16.size (k5_off10_inb kk k)).toLoadRect fr (ix3 (0 : Fin 1) (0 : Fin 1) l')) rfl ?_
        refine (congrArg tree32 (funext fun k => ld_lane d L _ (0 : Fin 2) (32 * kk.val + k.val) 48 (by have := k2_lt kk; omega) (by omega) (k5_off10_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 48 + l'.val = k5_off11 kk 2 + 1 * l'.val
        rw [k5_off11_eq]
        show 48 + l'.val = 48 + 1 * l'.val
        omega
      · -- lane group 2: lanes 32 … 47
        intro x
        obtain ⟨l', rfl⟩ := exists_lane x
        show _ = scrSum d L (0 : Fin 2) fr kk.val (k2_lt kk) ((Rect.unit (s := S2x4x128) (k5_off9 kk) S1x1x16.size (k5_off9_inb kk)).emb (ix3 (0 : Fin 1) (0 : Fin 1) l'))
        simp only [Cert.Proof.KB.k5_pay92_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off8 kk (BitVec.ofNat 32 k.val)) S1x1x16.size (k5_off8_inb kk k)).toLoadRect fr (ix3 (0 : Fin 1) (0 : Fin 1) l')) rfl ?_
        refine (congrArg tree32 (funext fun k => ld_lane d L _ (0 : Fin 2) (32 * kk.val + k.val) 32 (by have := k2_lt kk; omega) (by omega) (k5_off8_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 32 + l'.val = k5_off9 kk 2 + 1 * l'.val
        rw [k5_off9_eq]
        show 32 + l'.val = 32 + 1 * l'.val
        omega
      · -- lane group 1: lanes 16 … 31
        intro x
        obtain ⟨l', rfl⟩ := exists_lane x
        show _ = scrSum d L (0 : Fin 2) fr kk.val (k2_lt kk) ((Rect.unit (s := S2x4x128) (k5_off7 kk) S1x1x16.size (k5_off7_inb kk)).emb (ix3 (0 : Fin 1) (0 : Fin 1) l'))
        simp only [Cert.Proof.KB.k5_pay61_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off6 kk (BitVec.ofNat 32 k.val)) S1x1x16.size (k5_off6_inb kk k)).toLoadRect fr (ix3 (0 : Fin 1) (0 : Fin 1) l')) rfl ?_
        refine (congrArg tree32 (funext fun k => ld_lane d L _ (0 : Fin 2) (32 * kk.val + k.val) 16 (by have := k2_lt kk; omega) (by omega) (k5_off6_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 16 + l'.val = k5_off7 kk 2 + 1 * l'.val
        rw [k5_off7_eq]
        show 16 + l'.val = 16 + 1 * l'.val
        omega
      · -- lane group 0: lanes 0 … 15
        intro x
        obtain ⟨l', rfl⟩ := exists_lane x
        show _ = scrSum d L (0 : Fin 2) fr kk.val (k2_lt kk) ((Rect.unit (s := S2x4x128) (k5_off5 kk) S1x1x16.size (k5_off5_inb kk)).emb (ix3 (0 : Fin 1) (0 : Fin 1) l'))
        simp only [Cert.Proof.KB.k5_pay30_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off4 kk (BitVec.ofNat 32 k.val)) S1x1x16.size (k5_off4_inb kk k)).toLoadRect fr (ix3 (0 : Fin 1) (0 : Fin 1) l')) rfl ?_
        refine (congrArg tree32 (funext fun k => ld_lane d L _ (0 : Fin 2) (32 * kk.val + k.val) 0 (by have := k2_lt kk; omega) (by omega) (k5_off4_eq kk k) _ fr l')).trans ?_
        unfold scrSum
        refine congrArg tree32 (funext fun k => congrArg (fun z => fr (ix3 (0 : Fin 2) (⟨32 * kk.val + k.val, by have := k2_lt kk; omega⟩ : Fin 128) z)) (Fin.ext ?_))
        show 0 + l'.val = k5_off5 kk 2 + 1 * l'.val
        rw [k5_off5_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (0 : Fin 2) (⟨kk.val, k2_lt kk⟩ : Fin 4) (⟨16 * 0 + l.val, by omega⟩ : Fin 128)) ∈ (Rect.unit (s := S2x4x128) (k5_off5 kk) S1x1x16.size (k5_off5_inb kk)).set
        rw [Rect.mem_set_unit, k5_off5_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (0 : Fin 2) (⟨kk.val, k2_lt kk⟩ : Fin 4) (⟨16 * 1 + l.val, by omega⟩ : Fin 128)) ∈ (Rect.unit (s := S2x4x128) (k5_off7 kk) S1x1x16.size (k5_off7_inb kk)).set
        rw [Rect.mem_set_unit, k5_off7_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (0 : Fin 2) (⟨kk.val, k2_lt kk⟩ : Fin 4) (⟨16 * 2 + l.val, by omega⟩ : Fin 128)) ∈ (Rect.unit (s := S2x4x128) (k5_off9 kk) S1x1x16.size (k5_off9_inb kk)).set
        rw [Rect.mem_set_unit, k5_off9_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (0 : Fin 2) (⟨kk.val, k2_lt kk⟩ : Fin 4) (⟨16 * 3 + l.val, by omega⟩ : Fin 128)) ∈ (Rect.unit (s := S2x4x128) (k5_off11 kk) S1x1x16.size (k5_off11_inb kk)).set
        rw [Rect.mem_set_unit, k5_off11_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (0 : Fin 2) (⟨kk.val, k2_lt kk⟩ : Fin 4) (⟨16 * 4 + l.val, by omega⟩ : Fin 128)) ∈ (Rect.unit (s := S2x4x128) (k5_off13 kk) S1x1x16.size (k5_off13_inb kk)).set
        rw [Rect.mem_set_unit, k5_off13_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (0 : Fin 2) (⟨kk.val, k2_lt kk⟩ : Fin 4) (⟨16 * 5 + l.val, by omega⟩ : Fin 128)) ∈ (Rect.unit (s := S2x4x128) (k5_off15 kk) S1x1x16.size (k5_off15_inb kk)).set
        rw [Rect.mem_set_unit, k5_off15_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (0 : Fin 2) (⟨kk.val, k2_lt kk⟩ : Fin 4) (⟨16 * 6 + l.val, by omega⟩ : Fin 128)) ∈ (Rect.unit (s := S2x4x128) (k5_off17 kk) S1x1x16.size (k5_off17_inb kk)).set
        rw [Rect.mem_set_unit, k5_off17_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (0 : Fin 2) (⟨kk.val, k2_lt kk⟩ : Fin 4) (⟨16 * 7 + l.val, by omega⟩ : Fin 128)) ∈ (Rect.unit (s := S2x4x128) (k5_off19 kk) S1x1x16.size (k5_off19_inb kk)).set
        rw [Rect.mem_set_unit, k5_off19_eq]
        intro a
        match a with
        | ⟨0, _⟩ => exact ⟨Nat.le_refl _, by show (0 : ℕ) < 0 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc5_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k5_off19 kk) S1x1x16.size (k5_off19_inb kk)).set := hm
      rw [Rect.mem_set_unit, k5_off19_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 6
      intro hm
      have hm' : y ∈ (Rect.unit (s := S2x4x128) (k5_off17 kk) S1x1x16.size (k5_off17_inb kk)).set := hm
      rw [Rect.mem_set_unit, k5_off17_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 5
      intro hm
      have hm' : y ∈ (Rect.unit (s := S2x4x128) (k5_off15 kk) S1x1x16.size (k5_off15_inb kk)).set := hm
      rw [Rect.mem_set_unit, k5_off15_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 4
      intro hm
      have hm' : y ∈ (Rect.unit (s := S2x4x128) (k5_off13 kk) S1x1x16.size (k5_off13_inb kk)).set := hm
      rw [Rect.mem_set_unit, k5_off13_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 3
      intro hm
      have hm' : y ∈ (Rect.unit (s := S2x4x128) (k5_off11 kk) S1x1x16.size (k5_off11_inb kk)).set := hm
      rw [Rect.mem_set_unit, k5_off11_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 2
      intro hm
      have hm' : y ∈ (Rect.unit (s := S2x4x128) (k5_off9 kk) S1x1x16.size (k5_off9_inb kk)).set := hm
      rw [Rect.mem_set_unit, k5_off9_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 1
      intro hm
      have hm' : y ∈ (Rect.unit (s := S2x4x128) (k5_off7 kk) S1x1x16.size (k5_off7_inb kk)).set := hm
      rw [Rect.mem_set_unit, k5_off7_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩
    · -- lane group 0
      intro hm
      have hm' : y ∈ (Rect.unit (s := S2x4x128) (k5_off5 kk) S1x1x16.size (k5_off5_inb kk)).set := hm
      rw [Rect.mem_set_unit, k5_off5_eq] at hm'
      have h0 := hm' ⟨0, by decide⟩
      have h1 := hm' ⟨1, by decide⟩
      have h0' : 0 ≤ (y 0).val ∧ (y 0).val < 0 + 1 := h0
      have h1' : kk.val ≤ (y 1).val ∧ (y 1).val < kk.val + 1 := h1
      exact hy ⟨by omega, by omega⟩

set_option maxHeartbeats 4000000 in
/-- Trip `kk` of slot 1's inner loop: the row scratch is only read; the output scratch ends with row `kk` of
    slot 1 at the trees of the 32 gathered rows, lane by lane, and is unchanged off that row.  (The contents are read
    through the whole buffer's view, `View.read … f = f`.) -/
theorem inner_trip1 (k : Fin k5_t1_loop.trips) (kk : Fin k5_t3_loop.trips)
    (fr : Buf (Elt F) ((V d (cV L) (jV L)).loc cc5_scratch1)) (fob : Buf (Elt F) ((V d (cV L) (jV L)).loc cc5_scratch2))
    (v2 : BitVec 32) (arg11 : BitVec 32) :
    iprop(((rwV).view.loc (V d (cV L) (jV L)) ↦[Finset.univ \ (rwK0).view.set]{fullShare} fr)
      ∗ ((obV).view.loc (V d (cV L) (jV L)) ↦[Finset.univ \ (obK0).view.set]{fullShare} fob))
      ⊢ (wp frame (wpE (defs₀ (F := F)) 𝒱₀ (V d (cV L) (jV L)) none) Set.univ
          (k5_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k arg11 kk ())
          fun _ => iprop(((rwV).view.loc (V d (cV L) (jV L)) ↦[Finset.univ \ (rwK0).view.set]{fullShare} fr)
            ∗ ∃ fob'' : Buf (Elt F) ((V d (cV L) (jV L)).loc cc5_scratch2), ((obV).view.loc (V d (cV L) (jV L)) ↦[Finset.univ \ (obK0).view.set]{fullShare} fob'')
              ∗ ⌜(∀ (g : Fin 8) (l : Fin 16), View.read (Elt F) (Memref.whole cc5_scratch2).view fob'' (ix3 (1 : Fin 2) (⟨kk.val, k3_lt kk⟩ : Fin 4) (⟨16 * g.val + l.val, by omega⟩ : Fin 128))
                    = scrSum d L (1 : Fin 2) fr kk.val (k3_lt kk) (ix3 (1 : Fin 2) (⟨kk.val, k3_lt kk⟩ : Fin 4) (⟨16 * g.val + l.val, by omega⟩ : Fin 128)))
                ∧ (∀ y : S2x4x128.Idx, ¬((y 0).val = 1 ∧ (y 1).val = kk.val) →
                    View.read (Elt F) (Memref.whole cc5_scratch2).view fob'' y = View.read (Elt F) (Memref.whole cc5_scratch2).view fob y)⌝) : sProp 𝕄) := by
  iintro ⟨Hrw, Hob⟩
  unfold k5_t3_body
  sl_exec
  rw [wp_ret]; imodintro
  isplitl [Hrw]; · iexact Hrw
  iexists _
  isplitl [Hob]; · iexact Hob
  ipureintro
  refine ⟨fun g l => ?_, fun y hy => ?_⟩
  · -- the written scratch read at an index of the row is the one function of the row scratch
    refine View.read_writes_apply_of_pieces (Memref.whole cc5_scratch2).view fob (scrSum d L (1 : Fin 2) fr kk.val (k3_lt kk)) _ ?_ _ ?_
    · intro p hp
      simp only [List.mem_cons, List.mem_nil_iff, or_false] at hp
      rcases hp with rfl | rfl | rfl | rfl | rfl | rfl | rfl | rfl
      · -- lane group 7: lanes 112 … 127
        intro x
        obtain ⟨l', rfl⟩ := exists_lane x
        show _ = scrSum d L (1 : Fin 2) fr kk.val (k3_lt kk) ((Rect.unit (s := S2x4x128) (k5_off38 kk) S1x1x16.size (k5_off38_inb kk)).emb (ix3 (0 : Fin 1) (0 : Fin 1) l'))
        simp only [Cert.Proof.KB.k5_pay570_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off37 kk (BitVec.ofNat 32 k.val)) S1x1x16.size (k5_off37_inb kk k)).toLoadRect fr (ix3 (0 : Fin 1) (0 : Fin 1) l')) rfl ?_
        refine (congrArg tree32 (funext fun k => ld_lane d L _ (1 : Fin 2) (32 * kk.val + k.val) 112 (by have := k3_lt kk; omega) (by omega) (k5_off37_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 112 + l'.val = k5_off38 kk 2 + 1 * l'.val
        rw [k5_off38_eq]
        show 112 + l'.val = 112 + 1 * l'.val
        omega
      · -- lane group 6: lanes 96 … 111
        intro x
        obtain ⟨l', rfl⟩ := exists_lane x
        show _ = scrSum d L (1 : Fin 2) fr kk.val (k3_lt kk) ((Rect.unit (s := S2x4x128) (k5_off36 kk) S1x1x16.size (k5_off36_inb kk)).emb (ix3 (0 : Fin 1) (0 : Fin 1) l'))
        simp only [Cert.Proof.KB.k5_pay525_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off35 kk (BitVec.ofNat 32 k.val)) S1x1x16.size (k5_off35_inb kk k)).toLoadRect fr (ix3 (0 : Fin 1) (0 : Fin 1) l')) rfl ?_
        refine (congrArg tree32 (funext fun k => ld_lane d L _ (1 : Fin 2) (32 * kk.val + k.val) 96 (by have := k3_lt kk; omega) (by omega) (k5_off35_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 96 + l'.val = k5_off36 kk 2 + 1 * l'.val
        rw [k5_off36_eq]
        show 96 + l'.val = 96 + 1 * l'.val
        omega
      · -- lane group 5: lanes 80 … 95
        intro x
        obtain ⟨l', rfl⟩ := exists_lane x
        show _ = scrSum d L (1 : Fin 2) fr kk.val (k3_lt kk) ((Rect.unit (s := S2x4x128) (k5_off34 kk) S1x1x16.size (k5_off34_inb kk)).emb (ix3 (0 : Fin 1) (0 : Fin 1) l'))
        simp only [Cert.Proof.KB.k5_pay481_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off33 kk (BitVec.ofNat 32 k.val)) S1x1x16.size (k5_off33_inb kk k)).toLoadRect fr (ix3 (0 : Fin 1) (0 : Fin 1) l')) rfl ?_
        refine (congrArg tree32 (funext fun k => ld_lane d L _ (1 : Fin 2) (32 * kk.val + k.val) 80 (by have := k3_lt kk; omega) (by omega) (k5_off33_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 80 + l'.val = k5_off34 kk 2 + 1 * l'.val
        rw [k5_off34_eq]
        show 80 + l'.val = 80 + 1 * l'.val
        omega
      · -- lane group 4: lanes 64 … 79
        intro x
        obtain ⟨l', rfl⟩ := exists_lane x
        show _ = scrSum d L (1 : Fin 2) fr kk.val (k3_lt kk) ((Rect.unit (s := S2x4x128) (k5_off32 kk) S1x1x16.size (k5_off32_inb kk)).emb (ix3 (0 : Fin 1) (0 : Fin 1) l'))
        simp only [Cert.Proof.KB.k5_pay442_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off31 kk (BitVec.ofNat 32 k.val)) S1x1x16.size (k5_off31_inb kk k)).toLoadRect fr (ix3 (0 : Fin 1) (0 : Fin 1) l')) rfl ?_
        refine (congrArg tree32 (funext fun k => ld_lane d L _ (1 : Fin 2) (32 * kk.val + k.val) 64 (by have := k3_lt kk; omega) (by omega) (k5_off31_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 64 + l'.val = k5_off32 kk 2 + 1 * l'.val
        rw [k5_off32_eq]
        show 64 + l'.val = 64 + 1 * l'.val
        omega
      · -- lane group 3: lanes 48 … 63
        intro x
        obtain ⟨l', rfl⟩ := exists_lane x
        show _ = scrSum d L (1 : Fin 2) fr kk.val (k3_lt kk) ((Rect.unit (s := S2x4x128) (k5_off30 kk) S1x1x16.size (k5_off30_inb kk)).emb (ix3 (0 : Fin 1) (0 : Fin 1) l'))
        simp only [Cert.Proof.KB.k5_pay408_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off29 kk (BitVec.ofNat 32 k.val)) S1x1x16.size (k5_off29_inb kk k)).toLoadRect fr (ix3 (0 : Fin 1) (0 : Fin 1) l')) rfl ?_
        refine (congrArg tree32 (funext fun k => ld_lane d L _ (1 : Fin 2) (32 * kk.val + k.val) 48 (by have := k3_lt kk; omega) (by omega) (k5_off29_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 48 + l'.val = k5_off30 kk 2 + 1 * l'.val
        rw [k5_off30_eq]
        show 48 + l'.val = 48 + 1 * l'.val
        omega
      · -- lane group 2: lanes 32 … 47
        intro x
        obtain ⟨l', rfl⟩ := exists_lane x
        show _ = scrSum d L (1 : Fin 2) fr kk.val (k3_lt kk) ((Rect.unit (s := S2x4x128) (k5_off28 kk) S1x1x16.size (k5_off28_inb kk)).emb (ix3 (0 : Fin 1) (0 : Fin 1) l'))
        simp only [Cert.Proof.KB.k5_pay376_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off27 kk (BitVec.ofNat 32 k.val)) S1x1x16.size (k5_off27_inb kk k)).toLoadRect fr (ix3 (0 : Fin 1) (0 : Fin 1) l')) rfl ?_
        refine (congrArg tree32 (funext fun k => ld_lane d L _ (1 : Fin 2) (32 * kk.val + k.val) 32 (by have := k3_lt kk; omega) (by omega) (k5_off27_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 32 + l'.val = k5_off28 kk 2 + 1 * l'.val
        rw [k5_off28_eq]
        show 32 + l'.val = 32 + 1 * l'.val
        omega
      · -- lane group 1: lanes 16 … 31
        intro x
        obtain ⟨l', rfl⟩ := exists_lane x
        show _ = scrSum d L (1 : Fin 2) fr kk.val (k3_lt kk) ((Rect.unit (s := S2x4x128) (k5_off26 kk) S1x1x16.size (k5_off26_inb kk)).emb (ix3 (0 : Fin 1) (0 : Fin 1) l'))
        simp only [Cert.Proof.KB.k5_pay345_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off25 kk (BitVec.ofNat 32 k.val)) S1x1x16.size (k5_off25_inb kk k)).toLoadRect fr (ix3 (0 : Fin 1) (0 : Fin 1) l')) rfl ?_
        refine (congrArg tree32 (funext fun k => ld_lane d L _ (1 : Fin 2) (32 * kk.val + k.val) 16 (by have := k3_lt kk; omega) (by omega) (k5_off25_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 16 + l'.val = k5_off26 kk 2 + 1 * l'.val
        rw [k5_off26_eq]
        show 16 + l'.val = 16 + 1 * l'.val
        omega
      · -- lane group 0: lanes 0 … 15
        intro x
        obtain ⟨l', rfl⟩ := exists_lane x
        show _ = scrSum d L (1 : Fin 2) fr kk.val (k3_lt kk) ((Rect.unit (s := S2x4x128) (k5_off24 kk) S1x1x16.size (k5_off24_inb kk)).emb (ix3 (0 : Fin 1) (0 : Fin 1) l'))
        simp only [Cert.Proof.KB.k5_pay314_lane]
        sl_unfold_run_names
        simp only [Cert.Proof.KB.k5_pay1_lane, Cert.Proof.KB.k5_pay2_lane, Cert.Proof.KB.k5_pay3_lane, Cert.Proof.KB.k5_pay4_lane, Cert.Proof.KB.k5_pay5_lane, Cert.Proof.KB.k5_pay6_lane, Cert.Proof.KB.k5_pay7_lane, Cert.Proof.KB.k5_pay8_lane, Cert.Proof.KB.k5_pay9_lane, Cert.Proof.KB.k5_pay10_lane, Cert.Proof.KB.k5_pay11_lane, Cert.Proof.KB.k5_pay12_lane, Cert.Proof.KB.k5_pay13_lane, Cert.Proof.KB.k5_pay14_lane, Cert.Proof.KB.k5_pay15_lane, Cert.Proof.KB.k5_pay16_lane, Cert.Proof.KB.k5_pay17_lane, Cert.Proof.KB.k5_pay18_lane, Cert.Proof.KB.k5_pay19_lane, Cert.Proof.KB.k5_pay20_lane, Cert.Proof.KB.k5_pay21_lane, Cert.Proof.KB.k5_pay22_lane, Cert.Proof.KB.k5_pay23_lane, Cert.Proof.KB.k5_pay24_lane, Cert.Proof.KB.k5_pay25_lane, Cert.Proof.KB.k5_pay26_lane, Cert.Proof.KB.k5_pay27_lane, Cert.Proof.KB.k5_pay28_lane, Cert.Proof.KB.k5_pay29_lane, Cert.Proof.KB.k5_pay30_lane, Cert.Proof.KB.k5_pay31_lane, Cert.Proof.KB.k5_pay32_lane, Cert.Proof.KB.k5_pay33_lane, Cert.Proof.KB.k5_pay34_lane, Cert.Proof.KB.k5_pay35_lane, Cert.Proof.KB.k5_pay36_lane, Cert.Proof.KB.k5_pay37_lane, Cert.Proof.KB.k5_pay38_lane, Cert.Proof.KB.k5_pay39_lane, Cert.Proof.KB.k5_pay40_lane, Cert.Proof.KB.k5_pay41_lane, Cert.Proof.KB.k5_pay42_lane, Cert.Proof.KB.k5_pay43_lane, Cert.Proof.KB.k5_pay44_lane, Cert.Proof.KB.k5_pay45_lane, Cert.Proof.KB.k5_pay46_lane, Cert.Proof.KB.k5_pay47_lane, Cert.Proof.KB.k5_pay48_lane, Cert.Proof.KB.k5_pay49_lane, Cert.Proof.KB.k5_pay50_lane, Cert.Proof.KB.k5_pay51_lane, Cert.Proof.KB.k5_pay52_lane, Cert.Proof.KB.k5_pay53_lane, Cert.Proof.KB.k5_pay54_lane, Cert.Proof.KB.k5_pay55_lane, Cert.Proof.KB.k5_pay56_lane, Cert.Proof.KB.k5_pay57_lane, Cert.Proof.KB.k5_pay58_lane, Cert.Proof.KB.k5_pay59_lane, Cert.Proof.KB.k5_pay60_lane, Cert.Proof.KB.k5_pay61_lane, Cert.Proof.KB.k5_pay62_lane, Cert.Proof.KB.k5_pay63_lane, Cert.Proof.KB.k5_pay64_lane, Cert.Proof.KB.k5_pay65_lane, Cert.Proof.KB.k5_pay66_lane, Cert.Proof.KB.k5_pay67_lane, Cert.Proof.KB.k5_pay68_lane, Cert.Proof.KB.k5_pay69_lane, Cert.Proof.KB.k5_pay70_lane, Cert.Proof.KB.k5_pay71_lane, Cert.Proof.KB.k5_pay72_lane, Cert.Proof.KB.k5_pay73_lane, Cert.Proof.KB.k5_pay74_lane, Cert.Proof.KB.k5_pay75_lane, Cert.Proof.KB.k5_pay76_lane, Cert.Proof.KB.k5_pay77_lane, Cert.Proof.KB.k5_pay78_lane, Cert.Proof.KB.k5_pay79_lane, Cert.Proof.KB.k5_pay80_lane, Cert.Proof.KB.k5_pay81_lane, Cert.Proof.KB.k5_pay82_lane, Cert.Proof.KB.k5_pay83_lane, Cert.Proof.KB.k5_pay84_lane, Cert.Proof.KB.k5_pay85_lane, Cert.Proof.KB.k5_pay86_lane, Cert.Proof.KB.k5_pay87_lane, Cert.Proof.KB.k5_pay88_lane, Cert.Proof.KB.k5_pay89_lane, Cert.Proof.KB.k5_pay90_lane, Cert.Proof.KB.k5_pay91_lane, Cert.Proof.KB.k5_pay92_lane, Cert.Proof.KB.k5_pay93_lane, Cert.Proof.KB.k5_pay94_lane, Cert.Proof.KB.k5_pay95_lane, Cert.Proof.KB.k5_pay96_lane, Cert.Proof.KB.k5_pay97_lane, Cert.Proof.KB.k5_pay98_lane, Cert.Proof.KB.k5_pay99_lane, Cert.Proof.KB.k5_pay100_lane, Cert.Proof.KB.k5_pay101_lane, Cert.Proof.KB.k5_pay102_lane, Cert.Proof.KB.k5_pay103_lane, Cert.Proof.KB.k5_pay104_lane, Cert.Proof.KB.k5_pay105_lane, Cert.Proof.KB.k5_pay106_lane, Cert.Proof.KB.k5_pay107_lane, Cert.Proof.KB.k5_pay108_lane, Cert.Proof.KB.k5_pay109_lane, Cert.Proof.KB.k5_pay110_lane, Cert.Proof.KB.k5_pay111_lane, Cert.Proof.KB.k5_pay112_lane, Cert.Proof.KB.k5_pay113_lane, Cert.Proof.KB.k5_pay114_lane, Cert.Proof.KB.k5_pay115_lane, Cert.Proof.KB.k5_pay116_lane, Cert.Proof.KB.k5_pay117_lane, Cert.Proof.KB.k5_pay118_lane, Cert.Proof.KB.k5_pay119_lane, Cert.Proof.KB.k5_pay120_lane, Cert.Proof.KB.k5_pay121_lane, Cert.Proof.KB.k5_pay122_lane, Cert.Proof.KB.k5_pay123_lane, Cert.Proof.KB.k5_pay124_lane, Cert.Proof.KB.k5_pay125_lane, Cert.Proof.KB.k5_pay126_lane, Cert.Proof.KB.k5_pay127_lane, Cert.Proof.KB.k5_pay128_lane, Cert.Proof.KB.k5_pay129_lane, Cert.Proof.KB.k5_pay130_lane, Cert.Proof.KB.k5_pay131_lane, Cert.Proof.KB.k5_pay132_lane, Cert.Proof.KB.k5_pay133_lane, Cert.Proof.KB.k5_pay134_lane, Cert.Proof.KB.k5_pay135_lane, Cert.Proof.KB.k5_pay136_lane, Cert.Proof.KB.k5_pay137_lane, Cert.Proof.KB.k5_pay138_lane, Cert.Proof.KB.k5_pay139_lane, Cert.Proof.KB.k5_pay140_lane, Cert.Proof.KB.k5_pay141_lane, Cert.Proof.KB.k5_pay142_lane, Cert.Proof.KB.k5_pay143_lane, Cert.Proof.KB.k5_pay144_lane, Cert.Proof.KB.k5_pay145_lane, Cert.Proof.KB.k5_pay146_lane, Cert.Proof.KB.k5_pay147_lane, Cert.Proof.KB.k5_pay148_lane, Cert.Proof.KB.k5_pay149_lane, Cert.Proof.KB.k5_pay150_lane, Cert.Proof.KB.k5_pay151_lane, Cert.Proof.KB.k5_pay152_lane, Cert.Proof.KB.k5_pay153_lane, Cert.Proof.KB.k5_pay154_lane, Cert.Proof.KB.k5_pay155_lane, Cert.Proof.KB.k5_pay156_lane, Cert.Proof.KB.k5_pay157_lane, Cert.Proof.KB.k5_pay158_lane, Cert.Proof.KB.k5_pay159_lane, Cert.Proof.KB.k5_pay160_lane, Cert.Proof.KB.k5_pay161_lane, Cert.Proof.KB.k5_pay162_lane, Cert.Proof.KB.k5_pay163_lane, Cert.Proof.KB.k5_pay164_lane, Cert.Proof.KB.k5_pay165_lane, Cert.Proof.KB.k5_pay166_lane, Cert.Proof.KB.k5_pay167_lane, Cert.Proof.KB.k5_pay168_lane, Cert.Proof.KB.k5_pay169_lane, Cert.Proof.KB.k5_pay170_lane, Cert.Proof.KB.k5_pay171_lane, Cert.Proof.KB.k5_pay172_lane, Cert.Proof.KB.k5_pay173_lane, Cert.Proof.KB.k5_pay174_lane, Cert.Proof.KB.k5_pay175_lane, Cert.Proof.KB.k5_pay176_lane, Cert.Proof.KB.k5_pay177_lane, Cert.Proof.KB.k5_pay178_lane, Cert.Proof.KB.k5_pay179_lane, Cert.Proof.KB.k5_pay180_lane, Cert.Proof.KB.k5_pay181_lane, Cert.Proof.KB.k5_pay182_lane, Cert.Proof.KB.k5_pay183_lane, Cert.Proof.KB.k5_pay184_lane, Cert.Proof.KB.k5_pay185_lane, Cert.Proof.KB.k5_pay186_lane, Cert.Proof.KB.k5_pay187_lane, Cert.Proof.KB.k5_pay188_lane, Cert.Proof.KB.k5_pay189_lane, Cert.Proof.KB.k5_pay190_lane, Cert.Proof.KB.k5_pay191_lane, Cert.Proof.KB.k5_pay192_lane, Cert.Proof.KB.k5_pay193_lane, Cert.Proof.KB.k5_pay194_lane, Cert.Proof.KB.k5_pay195_lane, Cert.Proof.KB.k5_pay196_lane, Cert.Proof.KB.k5_pay197_lane, Cert.Proof.KB.k5_pay198_lane, Cert.Proof.KB.k5_pay199_lane, Cert.Proof.KB.k5_pay200_lane, Cert.Proof.KB.k5_pay201_lane, Cert.Proof.KB.k5_pay202_lane, Cert.Proof.KB.k5_pay203_lane, Cert.Proof.KB.k5_pay204_lane, Cert.Proof.KB.k5_pay205_lane, Cert.Proof.KB.k5_pay206_lane, Cert.Proof.KB.k5_pay207_lane, Cert.Proof.KB.k5_pay208_lane, Cert.Proof.KB.k5_pay209_lane, Cert.Proof.KB.k5_pay210_lane, Cert.Proof.KB.k5_pay211_lane, Cert.Proof.KB.k5_pay212_lane, Cert.Proof.KB.k5_pay213_lane, Cert.Proof.KB.k5_pay214_lane, Cert.Proof.KB.k5_pay215_lane, Cert.Proof.KB.k5_pay216_lane, Cert.Proof.KB.k5_pay217_lane, Cert.Proof.KB.k5_pay218_lane, Cert.Proof.KB.k5_pay219_lane, Cert.Proof.KB.k5_pay220_lane, Cert.Proof.KB.k5_pay221_lane, Cert.Proof.KB.k5_pay222_lane, Cert.Proof.KB.k5_pay223_lane, Cert.Proof.KB.k5_pay224_lane, Cert.Proof.KB.k5_pay225_lane, Cert.Proof.KB.k5_pay226_lane, Cert.Proof.KB.k5_pay227_lane, Cert.Proof.KB.k5_pay228_lane, Cert.Proof.KB.k5_pay229_lane, Cert.Proof.KB.k5_pay230_lane, Cert.Proof.KB.k5_pay231_lane, Cert.Proof.KB.k5_pay232_lane, Cert.Proof.KB.k5_pay233_lane, Cert.Proof.KB.k5_pay234_lane, Cert.Proof.KB.k5_pay235_lane, Cert.Proof.KB.k5_pay236_lane, Cert.Proof.KB.k5_pay237_lane, Cert.Proof.KB.k5_pay238_lane, Cert.Proof.KB.k5_pay239_lane, Cert.Proof.KB.k5_pay240_lane, Cert.Proof.KB.k5_pay241_lane, Cert.Proof.KB.k5_pay242_lane, Cert.Proof.KB.k5_pay243_lane, Cert.Proof.KB.k5_pay244_lane, Cert.Proof.KB.k5_pay245_lane, Cert.Proof.KB.k5_pay246_lane, Cert.Proof.KB.k5_pay247_lane, Cert.Proof.KB.k5_pay248_lane, Cert.Proof.KB.k5_pay249_lane, Cert.Proof.KB.k5_pay250_lane, Cert.Proof.KB.k5_pay251_lane, Cert.Proof.KB.k5_pay252_lane, Cert.Proof.KB.k5_pay253_lane, Cert.Proof.KB.k5_pay254_lane, Cert.Proof.KB.k5_pay255_lane, Cert.Proof.KB.k5_pay256_lane, Cert.Proof.KB.k5_pay257_lane, Cert.Proof.KB.k5_pay258_lane, Cert.Proof.KB.k5_pay259_lane, Cert.Proof.KB.k5_pay260_lane, Cert.Proof.KB.k5_pay261_lane, Cert.Proof.KB.k5_pay262_lane, Cert.Proof.KB.k5_pay263_lane, Cert.Proof.KB.k5_pay264_lane, Cert.Proof.KB.k5_pay265_lane, Cert.Proof.KB.k5_pay266_lane, Cert.Proof.KB.k5_pay267_lane, Cert.Proof.KB.k5_pay268_lane, Cert.Proof.KB.k5_pay269_lane, Cert.Proof.KB.k5_pay270_lane, Cert.Proof.KB.k5_pay271_lane, Cert.Proof.KB.k5_pay272_lane, Cert.Proof.KB.k5_pay273_lane, Cert.Proof.KB.k5_pay274_lane, Cert.Proof.KB.k5_pay275_lane, Cert.Proof.KB.k5_pay276_lane, Cert.Proof.KB.k5_pay277_lane, Cert.Proof.KB.k5_pay278_lane, Cert.Proof.KB.k5_pay279_lane, Cert.Proof.KB.k5_pay280_lane, Cert.Proof.KB.k5_pay281_lane, Cert.Proof.KB.k5_pay282_lane, Cert.Proof.KB.k5_pay283_lane, Cert.Proof.KB.k5_pay284_lane, Cert.Proof.KB.k5_pay285_lane, Cert.Proof.KB.k5_pay286_lane, Cert.Proof.KB.k5_pay287_lane, Cert.Proof.KB.k5_pay288_lane, Cert.Proof.KB.k5_pay289_lane, Cert.Proof.KB.k5_pay290_lane, Cert.Proof.KB.k5_pay291_lane, Cert.Proof.KB.k5_pay292_lane, Cert.Proof.KB.k5_pay293_lane, Cert.Proof.KB.k5_pay294_lane, Cert.Proof.KB.k5_pay295_lane, Cert.Proof.KB.k5_pay296_lane, Cert.Proof.KB.k5_pay297_lane, Cert.Proof.KB.k5_pay298_lane, Cert.Proof.KB.k5_pay299_lane, Cert.Proof.KB.k5_pay300_lane, Cert.Proof.KB.k5_pay301_lane, Cert.Proof.KB.k5_pay302_lane, Cert.Proof.KB.k5_pay303_lane, Cert.Proof.KB.k5_pay304_lane, Cert.Proof.KB.k5_pay305_lane, Cert.Proof.KB.k5_pay306_lane, Cert.Proof.KB.k5_pay307_lane, Cert.Proof.KB.k5_pay308_lane, Cert.Proof.KB.k5_pay309_lane, Cert.Proof.KB.k5_pay310_lane, Cert.Proof.KB.k5_pay311_lane, Cert.Proof.KB.k5_pay312_lane, Cert.Proof.KB.k5_pay313_lane, Cert.Proof.KB.k5_pay314_lane, Cert.Proof.KB.k5_pay315_lane, Cert.Proof.KB.k5_pay316_lane, Cert.Proof.KB.k5_pay317_lane, Cert.Proof.KB.k5_pay318_lane, Cert.Proof.KB.k5_pay319_lane, Cert.Proof.KB.k5_pay320_lane, Cert.Proof.KB.k5_pay321_lane, Cert.Proof.KB.k5_pay322_lane, Cert.Proof.KB.k5_pay323_lane, Cert.Proof.KB.k5_pay324_lane, Cert.Proof.KB.k5_pay325_lane, Cert.Proof.KB.k5_pay326_lane, Cert.Proof.KB.k5_pay327_lane, Cert.Proof.KB.k5_pay328_lane, Cert.Proof.KB.k5_pay329_lane, Cert.Proof.KB.k5_pay330_lane, Cert.Proof.KB.k5_pay331_lane, Cert.Proof.KB.k5_pay332_lane, Cert.Proof.KB.k5_pay333_lane, Cert.Proof.KB.k5_pay334_lane, Cert.Proof.KB.k5_pay335_lane, Cert.Proof.KB.k5_pay336_lane, Cert.Proof.KB.k5_pay337_lane, Cert.Proof.KB.k5_pay338_lane, Cert.Proof.KB.k5_pay339_lane, Cert.Proof.KB.k5_pay340_lane, Cert.Proof.KB.k5_pay341_lane, Cert.Proof.KB.k5_pay342_lane, Cert.Proof.KB.k5_pay343_lane, Cert.Proof.KB.k5_pay344_lane, Cert.Proof.KB.k5_pay345_lane, Cert.Proof.KB.k5_pay346_lane, Cert.Proof.KB.k5_pay347_lane, Cert.Proof.KB.k5_pay348_lane, Cert.Proof.KB.k5_pay349_lane, Cert.Proof.KB.k5_pay350_lane, Cert.Proof.KB.k5_pay351_lane, Cert.Proof.KB.k5_pay352_lane, Cert.Proof.KB.k5_pay353_lane, Cert.Proof.KB.k5_pay354_lane, Cert.Proof.KB.k5_pay355_lane, Cert.Proof.KB.k5_pay356_lane, Cert.Proof.KB.k5_pay357_lane, Cert.Proof.KB.k5_pay358_lane, Cert.Proof.KB.k5_pay359_lane, Cert.Proof.KB.k5_pay360_lane, Cert.Proof.KB.k5_pay361_lane, Cert.Proof.KB.k5_pay362_lane, Cert.Proof.KB.k5_pay363_lane, Cert.Proof.KB.k5_pay364_lane, Cert.Proof.KB.k5_pay365_lane, Cert.Proof.KB.k5_pay366_lane, Cert.Proof.KB.k5_pay367_lane, Cert.Proof.KB.k5_pay368_lane, Cert.Proof.KB.k5_pay369_lane, Cert.Proof.KB.k5_pay370_lane, Cert.Proof.KB.k5_pay371_lane, Cert.Proof.KB.k5_pay372_lane, Cert.Proof.KB.k5_pay373_lane, Cert.Proof.KB.k5_pay374_lane, Cert.Proof.KB.k5_pay375_lane, Cert.Proof.KB.k5_pay376_lane, Cert.Proof.KB.k5_pay377_lane, Cert.Proof.KB.k5_pay378_lane, Cert.Proof.KB.k5_pay379_lane, Cert.Proof.KB.k5_pay380_lane, Cert.Proof.KB.k5_pay381_lane, Cert.Proof.KB.k5_pay382_lane, Cert.Proof.KB.k5_pay383_lane, Cert.Proof.KB.k5_pay384_lane, Cert.Proof.KB.k5_pay385_lane, Cert.Proof.KB.k5_pay386_lane, Cert.Proof.KB.k5_pay387_lane, Cert.Proof.KB.k5_pay388_lane, Cert.Proof.KB.k5_pay389_lane, Cert.Proof.KB.k5_pay390_lane, Cert.Proof.KB.k5_pay391_lane, Cert.Proof.KB.k5_pay392_lane, Cert.Proof.KB.k5_pay393_lane, Cert.Proof.KB.k5_pay394_lane, Cert.Proof.KB.k5_pay395_lane, Cert.Proof.KB.k5_pay396_lane, Cert.Proof.KB.k5_pay397_lane, Cert.Proof.KB.k5_pay398_lane, Cert.Proof.KB.k5_pay399_lane, Cert.Proof.KB.k5_pay400_lane, Cert.Proof.KB.k5_pay401_lane, Cert.Proof.KB.k5_pay402_lane, Cert.Proof.KB.k5_pay403_lane, Cert.Proof.KB.k5_pay404_lane, Cert.Proof.KB.k5_pay405_lane, Cert.Proof.KB.k5_pay406_lane, Cert.Proof.KB.k5_pay407_lane, Cert.Proof.KB.k5_pay408_lane, Cert.Proof.KB.k5_pay409_lane, Cert.Proof.KB.k5_pay410_lane, Cert.Proof.KB.k5_pay411_lane, Cert.Proof.KB.k5_pay412_lane, Cert.Proof.KB.k5_pay413_lane, Cert.Proof.KB.k5_pay414_lane, Cert.Proof.KB.k5_pay415_lane, Cert.Proof.KB.k5_pay416_lane, Cert.Proof.KB.k5_pay417_lane, Cert.Proof.KB.k5_pay418_lane, Cert.Proof.KB.k5_pay419_lane, Cert.Proof.KB.k5_pay420_lane, Cert.Proof.KB.k5_pay421_lane, Cert.Proof.KB.k5_pay422_lane, Cert.Proof.KB.k5_pay423_lane, Cert.Proof.KB.k5_pay424_lane, Cert.Proof.KB.k5_pay425_lane, Cert.Proof.KB.k5_pay426_lane, Cert.Proof.KB.k5_pay427_lane, Cert.Proof.KB.k5_pay428_lane, Cert.Proof.KB.k5_pay429_lane, Cert.Proof.KB.k5_pay430_lane, Cert.Proof.KB.k5_pay431_lane, Cert.Proof.KB.k5_pay432_lane, Cert.Proof.KB.k5_pay433_lane, Cert.Proof.KB.k5_pay434_lane, Cert.Proof.KB.k5_pay435_lane, Cert.Proof.KB.k5_pay436_lane, Cert.Proof.KB.k5_pay437_lane, Cert.Proof.KB.k5_pay438_lane, Cert.Proof.KB.k5_pay439_lane, Cert.Proof.KB.k5_pay440_lane, Cert.Proof.KB.k5_pay441_lane, Cert.Proof.KB.k5_pay442_lane, Cert.Proof.KB.k5_pay443_lane, Cert.Proof.KB.k5_pay444_lane, Cert.Proof.KB.k5_pay445_lane, Cert.Proof.KB.k5_pay446_lane, Cert.Proof.KB.k5_pay447_lane, Cert.Proof.KB.k5_pay448_lane, Cert.Proof.KB.k5_pay449_lane, Cert.Proof.KB.k5_pay450_lane, Cert.Proof.KB.k5_pay451_lane, Cert.Proof.KB.k5_pay452_lane, Cert.Proof.KB.k5_pay453_lane, Cert.Proof.KB.k5_pay454_lane, Cert.Proof.KB.k5_pay455_lane, Cert.Proof.KB.k5_pay456_lane, Cert.Proof.KB.k5_pay457_lane, Cert.Proof.KB.k5_pay458_lane, Cert.Proof.KB.k5_pay459_lane, Cert.Proof.KB.k5_pay460_lane, Cert.Proof.KB.k5_pay461_lane, Cert.Proof.KB.k5_pay462_lane, Cert.Proof.KB.k5_pay463_lane, Cert.Proof.KB.k5_pay464_lane, Cert.Proof.KB.k5_pay465_lane, Cert.Proof.KB.k5_pay466_lane, Cert.Proof.KB.k5_pay467_lane, Cert.Proof.KB.k5_pay468_lane, Cert.Proof.KB.k5_pay469_lane, Cert.Proof.KB.k5_pay470_lane, Cert.Proof.KB.k5_pay471_lane, Cert.Proof.KB.k5_pay472_lane, Cert.Proof.KB.k5_pay473_lane, Cert.Proof.KB.k5_pay474_lane, Cert.Proof.KB.k5_pay475_lane, Cert.Proof.KB.k5_pay476_lane, Cert.Proof.KB.k5_pay477_lane, Cert.Proof.KB.k5_pay478_lane, Cert.Proof.KB.k5_pay479_lane, Cert.Proof.KB.k5_pay480_lane, Cert.Proof.KB.k5_pay481_lane, Cert.Proof.KB.k5_pay482_lane, Cert.Proof.KB.k5_pay483_lane, Cert.Proof.KB.k5_pay484_lane, Cert.Proof.KB.k5_pay485_lane, Cert.Proof.KB.k5_pay486_lane, Cert.Proof.KB.k5_pay487_lane, Cert.Proof.KB.k5_pay488_lane, Cert.Proof.KB.k5_pay489_lane, Cert.Proof.KB.k5_pay490_lane, Cert.Proof.KB.k5_pay491_lane, Cert.Proof.KB.k5_pay492_lane, Cert.Proof.KB.k5_pay493_lane, Cert.Proof.KB.k5_pay494_lane, Cert.Proof.KB.k5_pay495_lane, Cert.Proof.KB.k5_pay496_lane, Cert.Proof.KB.k5_pay497_lane, Cert.Proof.KB.k5_pay498_lane, Cert.Proof.KB.k5_pay499_lane, Cert.Proof.KB.k5_pay500_lane, Cert.Proof.KB.k5_pay501_lane, Cert.Proof.KB.k5_pay502_lane, Cert.Proof.KB.k5_pay503_lane, Cert.Proof.KB.k5_pay504_lane, Cert.Proof.KB.k5_pay505_lane, Cert.Proof.KB.k5_pay506_lane, Cert.Proof.KB.k5_pay507_lane, Cert.Proof.KB.k5_pay508_lane, Cert.Proof.KB.k5_pay509_lane, Cert.Proof.KB.k5_pay510_lane, Cert.Proof.KB.k5_pay511_lane, Cert.Proof.KB.k5_pay512_lane, Cert.Proof.KB.k5_pay513_lane, Cert.Proof.KB.k5_pay514_lane, Cert.Proof.KB.k5_pay515_lane, Cert.Proof.KB.k5_pay516_lane, Cert.Proof.KB.k5_pay517_lane, Cert.Proof.KB.k5_pay518_lane, Cert.Proof.KB.k5_pay519_lane, Cert.Proof.KB.k5_pay520_lane, Cert.Proof.KB.k5_pay521_lane, Cert.Proof.KB.k5_pay522_lane, Cert.Proof.KB.k5_pay523_lane, Cert.Proof.KB.k5_pay524_lane, Cert.Proof.KB.k5_pay525_lane, Cert.Proof.KB.k5_pay526_lane, Cert.Proof.KB.k5_pay527_lane, Cert.Proof.KB.k5_pay528_lane, Cert.Proof.KB.k5_pay529_lane, Cert.Proof.KB.k5_pay530_lane, Cert.Proof.KB.k5_pay531_lane, Cert.Proof.KB.k5_pay532_lane, Cert.Proof.KB.k5_pay533_lane, Cert.Proof.KB.k5_pay534_lane, Cert.Proof.KB.k5_pay535_lane, Cert.Proof.KB.k5_pay536_lane, Cert.Proof.KB.k5_pay537_lane, Cert.Proof.KB.k5_pay538_lane, Cert.Proof.KB.k5_pay539_lane, Cert.Proof.KB.k5_pay540_lane, Cert.Proof.KB.k5_pay541_lane, Cert.Proof.KB.k5_pay542_lane, Cert.Proof.KB.k5_pay543_lane, Cert.Proof.KB.k5_pay544_lane, Cert.Proof.KB.k5_pay545_lane, Cert.Proof.KB.k5_pay546_lane, Cert.Proof.KB.k5_pay547_lane, Cert.Proof.KB.k5_pay548_lane, Cert.Proof.KB.k5_pay549_lane, Cert.Proof.KB.k5_pay550_lane, Cert.Proof.KB.k5_pay551_lane, Cert.Proof.KB.k5_pay552_lane, Cert.Proof.KB.k5_pay553_lane, Cert.Proof.KB.k5_pay554_lane, Cert.Proof.KB.k5_pay555_lane, Cert.Proof.KB.k5_pay556_lane, Cert.Proof.KB.k5_pay557_lane, Cert.Proof.KB.k5_pay558_lane, Cert.Proof.KB.k5_pay559_lane, Cert.Proof.KB.k5_pay560_lane, Cert.Proof.KB.k5_pay561_lane, Cert.Proof.KB.k5_pay562_lane, Cert.Proof.KB.k5_pay563_lane, Cert.Proof.KB.k5_pay564_lane, Cert.Proof.KB.k5_pay565_lane, Cert.Proof.KB.k5_pay566_lane, Cert.Proof.KB.k5_pay567_lane, Cert.Proof.KB.k5_pay568_lane, Cert.Proof.KB.k5_pay569_lane, Cert.Proof.KB.k5_pay570_lane, Cert.Proof.KB.cast_16]
        refine Eq.trans (b := tree32 fun k : Fin 32 => View.readAt (Elt F) (Memref.whole cc5_scratch1).view
          (Rect.unit (s := S2x128x128) (k5_off23 kk (BitVec.ofNat 32 k.val)) S1x1x16.size (k5_off23_inb kk k)).toLoadRect fr (ix3 (0 : Fin 1) (0 : Fin 1) l')) rfl ?_
        refine (congrArg tree32 (funext fun k => ld_lane d L _ (1 : Fin 2) (32 * kk.val + k.val) 0 (by have := k3_lt kk; omega) (by omega) (k5_off23_eq kk k) _ fr l')).trans ?_
        unfold scrSum
        refine congrArg tree32 (funext fun k => congrArg (fun z => fr (ix3 (1 : Fin 2) (⟨32 * kk.val + k.val, by have := k3_lt kk; omega⟩ : Fin 128) z)) (Fin.ext ?_))
        show 0 + l'.val = k5_off24 kk 2 + 1 * l'.val
        rw [k5_off24_eq]
        show 0 + l'.val = 0 + 1 * l'.val
        omega
    · match g with
      | ⟨0, _⟩ =>
        refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        show (ix3 (1 : Fin 2) (⟨kk.val, k3_lt kk⟩ : Fin 4) (⟨16 * 0 + l.val, by omega⟩ : Fin 128)) ∈ (Rect.unit (s := S2x4x128) (k5_off24 kk) S1x1x16.size (k5_off24_inb kk)).set
        rw [Rect.mem_set_unit, k5_off24_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 0 ≤ 16 * 0 + l.val; omega, by show 16 * 0 + l.val < 0 + 16; omega⟩
      | ⟨1, _⟩ =>
        refine ⟨_, List.mem_cons_of_mem _ (List.mem_cons_of_mem _ (List.mem_cons_of_mem _ (List.mem_cons_of_mem _ (List.mem_cons_of_mem _ (List.mem_cons_of_mem _ (List.mem_cons_self)))))), ?_⟩
        show (ix3 (1 : Fin 2) (⟨kk.val, k3_lt kk⟩ : Fin 4) (⟨16 * 1 + l.val, by omega⟩ : Fin 128)) ∈ (Rect.unit (s := S2x4x128) (k5_off26 kk) S1x1x16.size (k5_off26_inb kk)).set
        rw [Rect.mem_set_unit, k5_off26_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 16 ≤ 16 * 1 + l.val; omega, by show 16 * 1 + l.val < 16 + 16; omega⟩
      | ⟨2, _⟩ =>
        refine ⟨_, List.mem_cons_of_mem _ (List.mem_cons_of_mem _ (List.mem_cons_of_mem _ (List.mem_cons_of_mem _ (List.mem_cons_of_mem _ (List.mem_cons_self))))), ?_⟩
        show (ix3 (1 : Fin 2) (⟨kk.val, k3_lt kk⟩ : Fin 4) (⟨16 * 2 + l.val, by omega⟩ : Fin 128)) ∈ (Rect.unit (s := S2x4x128) (k5_off28 kk) S1x1x16.size (k5_off28_inb kk)).set
        rw [Rect.mem_set_unit, k5_off28_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 32 ≤ 16 * 2 + l.val; omega, by show 16 * 2 + l.val < 32 + 16; omega⟩
      | ⟨3, _⟩ =>
        refine ⟨_, List.mem_cons_of_mem _ (List.mem_cons_of_mem _ (List.mem_cons_of_mem _ (List.mem_cons_of_mem _ (List.mem_cons_self)))), ?_⟩
        show (ix3 (1 : Fin 2) (⟨kk.val, k3_lt kk⟩ : Fin 4) (⟨16 * 3 + l.val, by omega⟩ : Fin 128)) ∈ (Rect.unit (s := S2x4x128) (k5_off30 kk) S1x1x16.size (k5_off30_inb kk)).set
        rw [Rect.mem_set_unit, k5_off30_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 48 ≤ 16 * 3 + l.val; omega, by show 16 * 3 + l.val < 48 + 16; omega⟩
      | ⟨4, _⟩ =>
        refine ⟨_, List.mem_cons_of_mem _ (List.mem_cons_of_mem _ (List.mem_cons_of_mem _ (List.mem_cons_self))), ?_⟩
        show (ix3 (1 : Fin 2) (⟨kk.val, k3_lt kk⟩ : Fin 4) (⟨16 * 4 + l.val, by omega⟩ : Fin 128)) ∈ (Rect.unit (s := S2x4x128) (k5_off32 kk) S1x1x16.size (k5_off32_inb kk)).set
        rw [Rect.mem_set_unit, k5_off32_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 64 ≤ 16 * 4 + l.val; omega, by show 16 * 4 + l.val < 64 + 16; omega⟩
      | ⟨5, _⟩ =>
        refine ⟨_, List.mem_cons_of_mem _ (List.mem_cons_of_mem _ (List.mem_cons_self)), ?_⟩
        show (ix3 (1 : Fin 2) (⟨kk.val, k3_lt kk⟩ : Fin 4) (⟨16 * 5 + l.val, by omega⟩ : Fin 128)) ∈ (Rect.unit (s := S2x4x128) (k5_off34 kk) S1x1x16.size (k5_off34_inb kk)).set
        rw [Rect.mem_set_unit, k5_off34_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 80 ≤ 16 * 5 + l.val; omega, by show 16 * 5 + l.val < 80 + 16; omega⟩
      | ⟨6, _⟩ =>
        refine ⟨_, List.mem_cons_of_mem _ (List.mem_cons_self), ?_⟩
        show (ix3 (1 : Fin 2) (⟨kk.val, k3_lt kk⟩ : Fin 4) (⟨16 * 6 + l.val, by omega⟩ : Fin 128)) ∈ (Rect.unit (s := S2x4x128) (k5_off36 kk) S1x1x16.size (k5_off36_inb kk)).set
        rw [Rect.mem_set_unit, k5_off36_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 96 ≤ 16 * 6 + l.val; omega, by show 16 * 6 + l.val < 96 + 16; omega⟩
      | ⟨7, _⟩ =>
        refine ⟨_, List.mem_cons_self, ?_⟩
        show (ix3 (1 : Fin 2) (⟨kk.val, k3_lt kk⟩ : Fin 4) (⟨16 * 7 + l.val, by omega⟩ : Fin 128)) ∈ (Rect.unit (s := S2x4x128) (k5_off38 kk) S1x1x16.size (k5_off38_inb kk)).set
        rw [Rect.mem_set_unit, k5_off38_eq]
        intro a
        match a with
        | ⟨0, _⟩ => exact ⟨Nat.le_refl _, by show (1 : ℕ) < 1 + 1; omega⟩
        | ⟨1, _⟩ => exact ⟨Nat.le_refl _, by show kk.val < kk.val + 1; omega⟩
        | ⟨2, _⟩ => exact ⟨by show 112 ≤ 16 * 7 + l.val; omega, by show 16 * 7 + l.val < 112 + 16; omega⟩
  · -- an index off the row is under none of the eight stores
    refine View.read_writes_apply_of_forall_not_mem (Memref.whole cc5_scratch2).view fob y _ ?_
    intro p hp
    simp only [List.mem_cons, List.mem_nil_iff, or_false] at hp
    rcases hp with rfl | rfl | rfl | rfl | rfl | rfl | rfl | rfl
    · -- lane group 7
      intro hm
      have hm' : y ∈ (Rect.unit (s := S2x4x128) (k5_off38 kk) S1x1x16.size (k5_off38_inb kk)).set := hm
      rw [Rect.mem_set_unit, k5_off38_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 6
      intro hm
      have hm' : y ∈ (Rect.unit (s := S2x4x128) (k5_off36 kk) S1x1x16.size (k5_off36_inb kk)).set := hm
      rw [Rect.mem_set_unit, k5_off36_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 5
      intro hm
      have hm' : y ∈ (Rect.unit (s := S2x4x128) (k5_off34 kk) S1x1x16.size (k5_off34_inb kk)).set := hm
      rw [Rect.mem_set_unit, k5_off34_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 4
      intro hm
      have hm' : y ∈ (Rect.unit (s := S2x4x128) (k5_off32 kk) S1x1x16.size (k5_off32_inb kk)).set := hm
      rw [Rect.mem_set_unit, k5_off32_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 3
      intro hm
      have hm' : y ∈ (Rect.unit (s := S2x4x128) (k5_off30 kk) S1x1x16.size (k5_off30_inb kk)).set := hm
      rw [Rect.mem_set_unit, k5_off30_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 2
      intro hm
      have hm' : y ∈ (Rect.unit (s := S2x4x128) (k5_off28 kk) S1x1x16.size (k5_off28_inb kk)).set := hm
      rw [Rect.mem_set_unit, k5_off28_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 1
      intro hm
      have hm' : y ∈ (Rect.unit (s := S2x4x128) (k5_off26 kk) S1x1x16.size (k5_off26_inb kk)).set := hm
      rw [Rect.mem_set_unit, k5_off26_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩
    · -- lane group 0
      intro hm
      have hm' : y ∈ (Rect.unit (s := S2x4x128) (k5_off24 kk) S1x1x16.size (k5_off24_inb kk)).set := hm
      rw [Rect.mem_set_unit, k5_off24_eq] at hm'
      have h0 := hm' ⟨0, by decide⟩
      have h1 := hm' ⟨1, by decide⟩
      have h0' : 1 ≤ (y 0).val ∧ (y 0).val < 1 + 1 := h0
      have h1' : kk.val ≤ (y 1).val ∧ (y 1).val < kk.val + 1 := h1
      exact hy ⟨by omega, by omega⟩

end Inner

end Cert.Proof.TileB2

end
-- ==== Proof.BodyInnerVC2K.lean ====
import proofs.«205366_g3083786518796_cont_9to1_852_38_alg».proof.Proof.BodyInnerC2K
import proofs.«205366_g3083786518796_cont_9to1_852_38_alg».proof.Proof.BodyInvVC2K
import Idealize.ShloMosaic.Lib.Writes
import Idealize.ShloMosaic.Lib.ValueIdx

noncomputable section

/-!
# The inner loops' trips against the invariant with the contents named

While a slot of the row scratch holds the 128 table rows its index chunk names, one trip of that slot's inner loop
adds one row to "the rows of the slot of the output scratch already summed hold the tree sums of their 32 table rows".
-/

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.KB (tree32)

variable {F : FTy → Type}

variable [FloatOps F]
variable {U : Type} [URA U] [CountersIn U]

local notation "𝕄" => MT nD τ sig (HIx 3) (Elt F) ℕ U ℕ
local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

section Inner
variable (d : Dev nD) (L : grid5.Coords)
variable (Tx : S10000x128.Idx → Elt F .f32) (Ix : S32x10496.Idx → Elt F .i32)

/-- One trip of slot 0's inner loop against the invariant "the rows already summed hold their sums": the trip's row gets
    the tree of its 32 rows of the row scratch, which under `RowsOK` are the table rows the index chunk names. -/
theorem inner_region0 (n : ℕ) (h : Buf (Elt F) ((V d (cV L) (jV L)).loc cc5_scratch1)) (hr : RowsOK L Tx Ix (0 : Fin 2) n h)
    (k : Fin k5_t1_loop.trips) (v2 : BitVec 32) (kk : Fin k5_t2_loop.trips) (x : PUnit) :
    innerInv0 d L Tx Ix (Finset.univ \ (obK1).view.set) n h kk.val x
      ⊢ (wp frame (wpE (defs₀ (F := F)) 𝒱₀ (V d (cV L) (jV L)) none) Set.univ
          (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k kk x)
          (fun y => innerInv0 d L Tx Ix (Finset.univ \ (obK1).view.set) n h (kk.val + 1) y) : sProp 𝕄) := by
  cases x
  unfold innerInv0
  iintro ⟨%fob', %hs, Hrw, Hob⟩
  iapply (wp_wand_r frame _ Set.univ)
  isplitl [Hrw Hob]
  · iapply (inner_trip0 d L k kk h fob' v2)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k2_lt kk⟩ : Fin 4) := Fin.ext hrk
        subst er
        refine (p1 g l).trans ?_
        unfold scrSum rowSum
        refine congrArg Cert.Proof.KB.tree32 (funext fun q => ?_)
        show h (ix3 (0 : Fin 2) (⟨32 * kk.val + q.val, by have := k2_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k2_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

/-- One trip of slot 0's inner loop against the invariant "the rows already summed hold their sums": the trip's row gets
    the tree of its 32 rows of the row scratch, which under `RowsOK` are the table rows the index chunk names. -/
theorem inner_region0_first (n : ℕ) (h : Buf (Elt F) ((V d (cV L) (jV L)).loc cc5_scratch1)) (hr : RowsOK L Tx Ix (0 : Fin 2) n h)
    (k : Fin k5_t1_loop.trips) (v2 : BitVec 32) (kk : Fin k5_t2_loop.trips) (x : PUnit) :
    innerInv0 d L Tx Ix (Finset.univ) n h kk.val x
      ⊢ (wp frame (wpE (defs₀ (F := F)) 𝒱₀ (V d (cV L) (jV L)) none) Set.univ
          (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k kk x)
          (fun y => innerInv0 d L Tx Ix (Finset.univ) n h (kk.val + 1) y) : sProp 𝕄) := by
  cases x
  unfold innerInv0
  iintro ⟨%fob', %hs, Hrw, Hob⟩
  iapply (wp_wand_r frame _ Set.univ)
  isplitl [Hrw Hob]
  · iapply (inner_trip0_first d L k kk h fob' v2)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k2_lt kk⟩ : Fin 4) := Fin.ext hrk
        subst er
        refine (p1 g l).trans ?_
        unfold scrSum rowSum
        refine congrArg Cert.Proof.KB.tree32 (funext fun q => ?_)
        show h (ix3 (0 : Fin 2) (⟨32 * kk.val + q.val, by have := k2_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k2_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

/-- One trip of slot 1's inner loop against the invariant "the rows already summed hold their sums": the trip's row gets
    the tree of its 32 rows of the row scratch, which under `RowsOK` are the table rows the index chunk names. -/
theorem inner_region1 (n : ℕ) (h : Buf (Elt F) ((V d (cV L) (jV L)).loc cc5_scratch1)) (hr : RowsOK L Tx Ix (1 : Fin 2) n h)
    (k : Fin k5_t1_loop.trips) (v2 : BitVec 32) (arg11 : BitVec 32) (kk : Fin k5_t3_loop.trips) (x : PUnit) :
    innerInv1 d L Tx Ix n h kk.val x
      ⊢ (wp frame (wpE (defs₀ (F := F)) 𝒱₀ (V d (cV L) (jV L)) none) Set.univ
          (k5_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k arg11 kk x)
          (fun y => innerInv1 d L Tx Ix n h (kk.val + 1) y) : sProp 𝕄) := by
  cases x
  unfold innerInv1
  iintro ⟨%fob', %hs, Hrw, Hob⟩
  iapply (wp_wand_r frame _ Set.univ)
  isplitl [Hrw Hob]
  · iapply (inner_trip1 d L k kk h fob' v2 arg11)
    isplitl [Hrw]; · iexact Hrw
    iexact Hob
  · iintro %u ⟨Hrw, %f', Hob, %hf'⟩
    iexists f'
    isplitr
    · ipureintro
      obtain ⟨p1, p2⟩ := hf'
      intro r' j hlt
      obtain ⟨g, l, rfl⟩ : ∃ (g : Fin 8) (l : Fin 16), j = (⟨16 * g.val + l.val, by omega⟩ : Fin 128) :=
        ⟨⟨j.val / 16, by omega⟩, ⟨j.val % 16, Nat.mod_lt _ (by decide)⟩, Fin.ext (by show j.val = 16 * (j.val / 16) + j.val % 16; omega)⟩
      by_cases hrk : r'.val = kk.val
      · have er : r' = (⟨kk.val, k3_lt kk⟩ : Fin 4) := Fin.ext hrk
        subst er
        refine (p1 g l).trans ?_
        unfold scrSum rowSum
        refine congrArg Cert.Proof.KB.tree32 (funext fun q => ?_)
        show h (ix3 (1 : Fin 2) (⟨32 * kk.val + q.val, by have := k3_lt kk; omega⟩ : Fin 128) (⟨16 * g.val + l.val, by omega⟩ : Fin 128))
          = Tx (ix2 (idxAt L Ix (32 * (4 * n + kk.val) + q.val)) (⟨16 * g.val + l.val, by omega⟩ : Fin 128))
        rw [hr (⟨32 * kk.val + q.val, by have := k3_lt kk; omega⟩ : Fin 128) (⟨16 * g.val + l.val, by omega⟩ : Fin 128)]
        show Tx (ix2 (idxAt L Ix (128 * n + (32 * kk.val + q.val))) _) = _
        rw [show 128 * n + (32 * kk.val + q.val) = 32 * (4 * n + kk.val) + q.val by omega]
      · refine (p2 _ (fun hh => hrk hh.2)).trans ?_
        exact hs r' _ (by omega)
    isplitl [Hrw]; · iexact Hrw
    iexact Hob

end Inner

end Cert.Proof.TileB2

end
-- ==== Proof.GatherReadC2K.lean ====
/-
  What an indirect gather of 128 rows of the table leaves in its destination, read at an index.

  The gather's destination is a [128,128] slot; entry p of the 128-entry offset list names a row of the [10000,128]
  table; after the gather, row p of the destination is that row of the table: the element at (p, j) is the table's
  element at (offs[p], j).
-/
import proofs.«205366_g3083786518796_cont_9to1_852_38_alg».proof.Proof.Gen.Kernel
import Idealize.ShloMosaic.Lib.SparseCore.Stream
import Idealize.ShloMosaic.Lib.ValueIdx
import proofs.«205366_g3083786518796_cont_9to1_852_38_alg».proof.Proof.ScTileParts2K

noncomputable section

namespace Cert.Proof.GatherReadB2

open Cert.Kernel Cert.Kernel.Gen
open Idealize.ShloMosaic Idealize.ShloMosaic.ValueIdx

variable {F : FTy → Type}

/-- The row the offset list names for destination row `p`: entry `p` of the list (a rank-one list's `p`-th word in
    row-major order is its `p`-th word). -/
theorem rows_apply (offs : S128.Idx → Elt F .i32) (hn : S128.numel = S128x128.size (gathers_S10000x128_S128x128).axis')
    (hin : ∀ x, (offs x).toNat < S10000x128.size (gathers_S10000x128_S128x128).axis) (p : Fin 128) :
    (SparseCore.rows (F := F) offs hn hin p).val = (offs (ix1 p)).toNat := by
  unfold SparseCore.rows
  show (offs (S128.rowMajor.symm (Fin.cast hn.symm p))).toNat = _
  congr 2
  apply S128.rowMajor.injective
  rw [Equiv.apply_symm_apply]
  apply Fin.ext
  rw [Shape.rowMajor_val_one]
  rfl

/-- THE GATHER'S PAYLOAD AT AN INDEX: element (p, j) of the destination is the table's element at (offs[p], j). -/
theorem gatherPayload_apply (Tx : S10000x128.Idx → Elt F .f32) (offs : S128.Idx → Elt F .i32)
    (hn : S128.numel = S128x128.size (gathers_S10000x128_S128x128).axis')
    (hin : ∀ x, (offs x).toNat < S10000x128.size (gathers_S10000x128_S128x128).axis) (p j : Fin 128) :
    SparseCore.gatherPayload (F := F) gathers_S10000x128_S128x128 Tx (SparseCore.rows (F := F) offs hn hin) (ix2 p j)
      = Tx (ix2 (⟨(offs (ix1 p)).toNat, hin _⟩ : Fin 10000) j) := by
  unfold SparseCore.gatherPayload
  congr 1
  funext b
  refine Fin.ext ?_
  match b with
  | ⟨0, _⟩ =>
    show ((gathers_S10000x128_S128x128).idx (SparseCore.rows (F := F) offs hn hin) (ix2 p j) (gathers_S10000x128_S128x128).axis).val = _
    rw [Shape.Gathers.idx_axis]
    exact rows_apply offs hn hin p
  | ⟨1, _⟩ =>
    exact Shape.Gathers.idx_of_ne gathers_S10000x128_S128x128 _ (ix2 p j) (⟨1, by decide⟩ : Fin S10000x128.rank) (by decide)

/-! ## The offsets the kernel gathers by: a window of the index scratch, which holds the worker's row of the index table -/

/-- The `n`-th window of 128 entries of the index scratch, read at entry `p`: entry `128·n + p` of the scratch. -/
theorem ixWin_read (n : ℕ) (h : ∀ a, (![128 * n] : Fin 1 → ℕ) a + S128.size a ≤ S10496.size a) (g : S10496.Idx → Elt F .i32)
    (p : Fin 128) (hp : 128 * n + p.val < 10496) :
    (Cert.Proof.TileB2.ixWinK n h).view.read (Elt F) g (ix1 p) = g (ix1 (⟨128 * n + p.val, hp⟩ : Fin 10496)) := by
  rw [View.read_apply]
  show g ((Rect.unit (s := S10496) ![128 * n] S128.size h).emb (ix1 p)) = _
  congr 1
  funext a
  refine Fin.ext ?_
  match a with
  | ⟨0, _⟩ =>
    rw [Rect.emb_apply]
    show 128 * n + 1 * p.val = 128 * n + p.val
    omega

/-- THE GATHER OF A WINDOW, AT AN INDEX: with the index scratch holding the worker's row of the index table `Ix` and
    the offsets its `n`-th window, element (p, j) of the destination is the table's element at the row that entry
    `128·n + p` of the worker's row names, lane j. -/
theorem gather_window_apply (L : grid5.Coords) (Tx : S10000x128.Idx → Elt F .f32) (Ix : S32x10496.Idx → BitVec 32)
    (n : ℕ) (h : ∀ a, (![128 * n] : Fin 1 → ℕ) a + S128.size a ≤ S10496.size a)
    (hn : S128.numel = S128x128.size (gathers_S10000x128_S128x128).axis')
    (hin : ∀ x, ((Cert.Proof.TileB2.ixWinK n h).view.read (Elt F) ((Cert.Proof.TileB2.iRowK L).view.read (Elt F) Ix) x).toNat
      < S10000x128.size (gathers_S10000x128_S128x128).axis)
    (p j : Fin 128) (hp : 128 * n + p.val < 10496) (hr : (Ix (ix2 (Cert.Proof.KB.wid (Cert.Proof.KB.cL2 L) (Cert.Proof.KB.jL2 L)) (⟨128 * n + p.val, hp⟩ : Fin 10496))).toNat < 10000) :
    SparseCore.gatherPayload (F := F) gathers_S10000x128_S128x128 Tx
        (SparseCore.rows (F := F) ((Cert.Proof.TileB2.ixWinK n h).view.read (Elt F) ((Cert.Proof.TileB2.iRowK L).view.read (Elt F) Ix)) hn hin) (ix2 p j)
      = Tx (ix2 (⟨(Ix (ix2 (Cert.Proof.KB.wid (Cert.Proof.KB.cL2 L) (Cert.Proof.KB.jL2 L)) (⟨128 * n + p.val, hp⟩ : Fin 10496))).toNat, hr⟩ : Fin 10000) j) := by
  rw [gatherPayload_apply]
  congr 2
  refine Fin.ext ?_
  show ((Cert.Proof.TileB2.ixWinK n h).view.read (Elt F) ((Cert.Proof.TileB2.iRowK L).view.read (Elt F) Ix) (ix1 p)).toNat = _
  rw [ixWin_read n h _ p hp, View.read_apply, Cert.Proof.KB.iRow_emb2 L _ hp]
  rfl

end Cert.Proof.GatherReadB2

end
-- ==== Proof.GSumWindowC2K.lean ====
/-
  The link between one gathered window and the neighbour sums.

  Worker w's output row 320·w + 4·n + r' (n < 80 the window's number, r' < 4) sums, over k < 32, the table rows named
  by entries 32·(4·n + r') + k = 128·n + (32·r' + k) of the worker's index row: entries 32·r' + k of the n-th window
  of 128.  So when a slot holds the n-th window's gather — its row p the table row that entry 128·n + p names — the
  output row is the tree sum of the slot's rows 32·r' … 32·r' + 31, lane by lane.
-/
import proofs.«205366_g3083786518796_cont_9to1_852_38_alg».proof.Proof.GSumK
import proofs.«205366_g3083786518796_cont_9to1_852_38_alg».proof.Proof.GatherReadC2K

noncomputable section

namespace Cert.Proof.KB

open Cert.Kernel
open Idealize.ShloMosaic Idealize.ShloMosaic.ValueIdx

variable {F : FTy → Type} [FloatOps F]

/-- THE WINDOW'S SUMS: a slot holding the `n`-th window's gather gives rows 4·n … 4·n + 3 of the worker's neighbour sums
    as the tree sums of its four groups of 32 rows. -/
theorem gsumF_window2 (Tx : S10000x128.Idx → F .f32) (Ix : S32x10496.Idx → BitVec 32) (w : Fin 32) (n : ℕ) (hn : n < 80)
    (slot : S128x128.Idx → F .f32) (hin : ∀ k : Fin 10496, (Ix (ix2 w k)).toNat < 10000)
    (hslot : ∀ (p j : Fin 128), slot (ix2 p j)
      = Tx (ix2 (⟨(Ix (ix2 w (⟨128 * n + p.val, by omega⟩ : Fin 10496))).toNat, hin _⟩ : Fin 10000) j))
    (r' : Fin 4) (j : Fin 128) :
    gsumF Tx Ix (ix2 (⟨320 * w.val + 4 * n + r'.val, by omega⟩ : Fin 10240) j)
      = tree32 fun k : Fin 32 => slot (ix2 (⟨32 * r'.val + k.val, by omega⟩ : Fin 128) j) := by
  have e1 : (320 * w.val + 4 * n + r'.val) / 320 = w.val := by omega
  have e2 : (320 * w.val + 4 * n + r'.val) % 320 = 4 * n + r'.val := by omega
  show (tree32 fun k : Fin 32 =>
    Tx (ix2
      ⟨(Ix (ix2 ⟨(320 * w.val + 4 * n + r'.val) / 320, by omega⟩
          ⟨32 * ((320 * w.val + 4 * n + r'.val) % 320) + k.val, by omega⟩)).toNat % 10000, Nat.mod_lt _ (by decide)⟩ j)) = _
  congr 1
  funext k
  rw [hslot]
  have hI : Ix (ix2 (⟨(320 * w.val + 4 * n + r'.val) / 320, by omega⟩ : Fin 32)
        (⟨32 * ((320 * w.val + 4 * n + r'.val) % 320) + k.val, by omega⟩ : Fin 10496))
      = Ix (ix2 w (⟨128 * n + (32 * r'.val + k.val), by omega⟩ : Fin 10496)) := by
    congr 1
    have ha : (⟨(320 * w.val + 4 * n + r'.val) / 320, by omega⟩ : Fin 32) = w := Fin.ext e1
    have hb : (⟨32 * ((320 * w.val + 4 * n + r'.val) % 320) + k.val, by omega⟩ : Fin 10496) = ⟨128 * n + (32 * r'.val + k.val), by omega⟩ :=
      Fin.ext (by show 32 * ((320 * w.val + 4 * n + r'.val) % 320) + k.val = 128 * n + (32 * r'.val + k.val); omega)
    rw [ha, hb]
  congr 2
  refine Fin.ext ?_
  show (Ix (ix2 (⟨(320 * w.val + 4 * n + r'.val) / 320, by omega⟩ : Fin 32)
        (⟨32 * ((320 * w.val + 4 * n + r'.val) % 320) + k.val, by omega⟩ : Fin 10496))).toNat % 10000 = _
  rw [hI, Nat.mod_eq_of_lt (hin _)]

/-- The same at lane `16·g + l` of the eight 16-lane groups of a row (the form the vector unit's additions have). -/
theorem gsumF_window_lanes2 (Tx : S10000x128.Idx → F .f32) (Ix : S32x10496.Idx → BitVec 32) (w : Fin 32) (n : ℕ) (hn : n < 80)
    (slot : S128x128.Idx → F .f32) (hin : ∀ k : Fin 10496, (Ix (ix2 w k)).toNat < 10000)
    (hslot : ∀ (p j : Fin 128), slot (ix2 p j)
      = Tx (ix2 (⟨(Ix (ix2 w (⟨128 * n + p.val, by omega⟩ : Fin 10496))).toNat, hin _⟩ : Fin 10000) j))
    (r' : Fin 4) (g : Fin 8) (l : Fin 16) :
    gsumF Tx Ix (ix2 (⟨320 * w.val + 4 * n + r'.val, by omega⟩ : Fin 10240) (⟨16 * g.val + l.val, by omega⟩ : Fin 128))
      = tree32 fun k : Fin 32 => slot (ix2 (⟨32 * r'.val + k.val, by omega⟩ : Fin 128) (⟨16 * g.val + l.val, by omega⟩ : Fin 128)) :=
  gsumF_window2 Tx Ix w n hn slot hin hslot r' _

/-- THE CHUNK'S VALUES: the result chunk of trip `t`, slot `b` is rows 4·n … 4·n + 3 (n = 2·t + b) of the worker's
    rows; contents that hold, at each of these four rows, the tree sums of the slot's groups of 32 rows — the slot
    holding the n-th window's gather — are the neighbour sums on the chunk. -/
theorem chunk_val2 (L : grid5.Coords) (t : Fin k5_t1_loop.trips) (b : Fin 2) (Tx : S10000x128.Idx → F .f32) (Ix : S32x10496.Idx → BitVec 32)
    (f : S10240x128.Idx → F .f32) (slot : S128x128.Idx → F .f32)
    (hin : ∀ k : Fin 10496, (Ix (ix2 (wid (cL2 L) (jL2 L)) k)).toNat < 10000)
    (hslot : ∀ (p j : Fin 128), slot (ix2 p j)
      = Tx (ix2 (⟨(Ix (ix2 (wid (cL2 L) (jL2 L)) (⟨128 * (2 * t.val + b.val) + p.val, by
          have := lt_of_lt_of_eq t.isLt Cert.Proof.TileB2.trips_eq; omega⟩ : Fin 10496))).toNat, hin _⟩ : Fin 10000) j))
    (hf : ∀ (r' : Fin 4) (j : Fin 128),
      f (ix2 (⟨320 * (wid (cL2 L) (jL2 L)).val + 4 * (2 * t.val + b.val) + r'.val, by
          have := lt_of_lt_of_eq t.isLt Cert.Proof.TileB2.trips_eq; omega⟩ : Fin 10240) j)
        = tree32 fun k : Fin 32 => slot (ix2 (⟨32 * r'.val + k.val, by omega⟩ : Fin 128) j)) :
    ∀ x ∈ Cert.Proof.TileB2.oChunkSet L t b, f x = gsumF Tx Ix x := by
  intro x hx
  have ht : t.val < 40 := lt_of_lt_of_eq t.isLt Cert.Proof.TileB2.trips_eq
  have hb := b.isLt
  rw [Cert.Proof.TileB2.mem_oChunkSet] at hx
  obtain ⟨a, j, rfl⟩ : ∃ (a : Fin 10240) (j : Fin 128), x = ix2 a j := ⟨x 0, x 1, eq_ix2 x⟩
  have hw : (wid (cL2 L) (jL2 L)).val = 2 * (L 1).val + (L 0).val := rfl
  have hx' : 640 * (L 1).val + 320 * (L 0).val + 8 * t.val + 4 * b.val ≤ a.val
      ∧ a.val < 640 * (L 1).val + 320 * (L 0).val + 8 * t.val + 4 * b.val + 4 := hx
  have hr : a.val - (320 * (wid (cL2 L) (jL2 L)).val + 4 * (2 * t.val + b.val)) < 4 := by omega
  have e : (ix2 a j : S10240x128.Idx) = ix2 (⟨320 * (wid (cL2 L) (jL2 L)).val + 4 * (2 * t.val + b.val)
      + (⟨a.val - (320 * (wid (cL2 L) (jL2 L)).val + 4 * (2 * t.val + b.val)), hr⟩ : Fin 4).val, by omega⟩ : Fin 10240) j := by
    congr 1
    exact Fin.ext (by
      show a.val = 320 * (wid (cL2 L) (jL2 L)).val + 4 * (2 * t.val + b.val) + (a.val - (320 * (wid (cL2 L) (jL2 L)).val + 4 * (2 * t.val + b.val)))
      omega)
  rw [e, hf, gsumF_window2 Tx Ix (wid (cL2 L) (jL2 L)) (2 * t.val + b.val) (by omega) slot hin hslot]

end Cert.Proof.KB

end
-- ==== Proof.BodyStepsVC2K.lean ====
/-
  The value steps of the gather-sum trips, as pure facts about the contents the transfers leave: a slot of the row scratch
  after its gather holds the table rows its index window names; a result chunk after its copy-out holds its rows of the
  neighbour-sum array when the result scratch's slot held the tree sums.
-/
import proofs.«205366_g3083786518796_cont_9to1_852_38_alg».proof.Proof.BodyLemmasC2K
import proofs.«205366_g3083786518796_cont_9to1_852_38_alg».proof.Proof.BodyInvVC2K
import proofs.«205366_g3083786518796_cont_9to1_852_38_alg».proof.Proof.GatherReadC2K
import proofs.«205366_g3083786518796_cont_9to1_852_38_alg».proof.Proof.GSumWindowC2K

noncomputable section

namespace Cert.Proof.TileB2

open Cert.Kernel Cert.Kernel.Gen
open Idealize.ShloMosaic
open Idealize.ShloMosaic.ValueIdx (ix1 ix2 ix3)

variable {F : FTy → Type}

/-! ## The views' placements -/

/-- Slot 0 of the row scratch: its element (r, j) is the scratch's element (0, r, j). -/
theorem rwK0_emb (r j : Fin 128) : (rwK0).view.emb (ix2 r j : S128x128.Idx) = (ix3 (0 : Fin 2) r j : S2x128x128.Idx) := by
  have hk : Shape.reshapeEquiv (s := S1x128x128) (s' := S128x128) (squeezes_S1x128x128_S128x128).numel_eq (ix2 r j : S128x128.Idx)
      = (ix3 (0 : Fin 1) r j : S1x128x128.Idx) :=
    Shape.reshapeEquiv_eq_of_rowMajor _ (by
      show ((⟨3, ![1, 128, 128]⟩ : Shape).rowMajor (ix3 (0 : Fin 1) r j) : ℕ) = ((⟨2, ![128, 128]⟩ : Shape).rowMajor (ix2 r j) : ℕ)
      rw [Shape.rowMajor_val_three, Shape.rowMajor_val_two]; simp)
  show (Rect.unit (s := S2x128x128) ![0, 0, 0] S1x128x128.size inb_S2x128x128_S1x128x128_0_0_0).emb
    (Shape.reshapeEquiv (s := S1x128x128) (s' := S128x128) (squeezes_S1x128x128_S128x128).numel_eq (ix2 r j : S128x128.Idx)) = _
  rw [hk]
  funext a
  refine Fin.ext ?_
  match a with
  | ⟨0, _⟩ => show 0 + 1 * 0 = 0; rfl
  | ⟨1, _⟩ => show 0 + 1 * r.val = r.val; omega
  | ⟨2, _⟩ => show 0 + 1 * j.val = j.val; omega

/-- Slot 1 of the row scratch. -/
theorem rwK1_emb (r j : Fin 128) : (rwK1).view.emb (ix2 r j : S128x128.Idx) = (ix3 (1 : Fin 2) r j : S2x128x128.Idx) := by
  have hk : Shape.reshapeEquiv (s := S1x128x128) (s' := S128x128) (squeezes_S1x128x128_S128x128).numel_eq (ix2 r j : S128x128.Idx)
      = (ix3 (0 : Fin 1) r j : S1x128x128.Idx) :=
    Shape.reshapeEquiv_eq_of_rowMajor _ (by
      show ((⟨3, ![1, 128, 128]⟩ : Shape).rowMajor (ix3 (0 : Fin 1) r j) : ℕ) = ((⟨2, ![128, 128]⟩ : Shape).rowMajor (ix2 r j) : ℕ)
      rw [Shape.rowMajor_val_three, Shape.rowMajor_val_two]; simp)
  show (Rect.unit (s := S2x128x128) ![1, 0, 0] S1x128x128.size inb_S2x128x128_S1x128x128_1_0_0).emb
    (Shape.reshapeEquiv (s := S1x128x128) (s' := S128x128) (squeezes_S1x128x128_S128x128).numel_eq (ix2 r j : S128x128.Idx)) = _
  rw [hk]
  funext a
  refine Fin.ext ?_
  match a with
  | ⟨0, _⟩ => show 1 + 1 * 0 = 1; rfl
  | ⟨1, _⟩ => show 0 + 1 * r.val = r.val; omega
  | ⟨2, _⟩ => show 0 + 1 * j.val = j.val; omega

/-- The shared table addressed whole reads the table. -/
theorem shAll_read (Tx : S10000x128.Idx → Elt F .f32) (x : S10000x128.Idx) : (shAllK).view.read (Elt F) Tx x = Tx x := by
  rw [View.read_apply]
  show Tx ((Rect.unit (s := S10000x128) ![0, 0] S10000x128.size inb_S10000x128_S10000x128_0_0).emb x) = Tx x
  congr 1
  funext a
  refine Fin.ext ?_
  match a with
  | ⟨0, _⟩ => show 0 + 1 * (x 0).val = (x 0).val; omega
  | ⟨1, _⟩ => show 0 + 1 * (x 1).val = (x 1).val; omega

/-! ## A slot after its gather -/

section Steps

variable (L : grid5.Coords) (Tx : S10000x128.Idx → Elt F .f32) (Ix : S32x10496.Idx → Elt F .i32)

/-- Writing a whole slot of the row scratch, read back at the slot's element. -/
theorem write_rwK0 (g : S2x128x128.Idx → Elt F .f32) (P : S128x128.Idx → Elt F .f32) (r j : Fin 128) :
    View.write (Elt F) (rwK0).view g P Finset.univ (ix3 (0 : Fin 2) r j) = P (ix2 r j) := by
  rw [← rwK0_emb r j, View.write_emb, if_pos (Finset.mem_univ _)]; rfl
theorem write_rwK1 (g : S2x128x128.Idx → Elt F .f32) (P : S128x128.Idx → Elt F .f32) (r j : Fin 128) :
    View.write (Elt F) (rwK1).view g P Finset.univ (ix3 (1 : Fin 2) r j) = P (ix2 r j) := by
  rw [← rwK1_emb r j, View.write_emb, if_pos (Finset.mem_univ _)]; rfl

/-- The offsets of the `n`-th window name the rows `idxAt` names. -/
theorem window_row (n : ℕ) (hn : n ≤ 81) (inb : ∀ a, (![128 * n] : Fin 1 → ℕ) a + S128.size a ≤ S10496.size a)
    (hin' : ∀ x, (((ixWinK n inb).view.read (Elt F) ((iRowK L).view.read (Elt F) Ix)) x).toNat
      < S10000x128.size (gathers_S10000x128_S128x128).axis) (r : Fin 128) :
    (((ixWinK n inb).view.read (Elt F) ((iRowK L).view.read (Elt F) Ix)) (ix1 r)).toNat = (idxAt L Ix (128 * n + r.val)).val := by
  have hp : 128 * n + r.val < 10496 := by have := r.isLt; omega
  have h1 := hin' (ix1 r)
  rw [Cert.Proof.GatherReadB2.ixWin_read n inb _ r hp] at h1 ⊢
  unfold idxAt
  show _ = ((iRowK L).view.read (Elt F) Ix (ix1 ⟨(128 * n + r.val) % 10496, Nat.mod_lt _ (by decide)⟩)).toNat % 10000
  have e : (⟨(128 * n + r.val) % 10496, Nat.mod_lt _ (by decide)⟩ : Fin 10496) = ⟨128 * n + r.val, hp⟩ := Fin.ext (Nat.mod_eq_of_lt hp)
  have h1' : ((iRowK L).view.read (Elt F) Ix (ix1 (⟨128 * n + r.val, hp⟩ : Fin 10496))).toNat < 10000 := h1
  rw [e, Nat.mod_eq_of_lt h1']

/-- SLOT 0 AFTER ITS GATHER holds the 128 table rows its index window names. -/
theorem rows_ok0 (n : ℕ) (hn : n ≤ 81) (off : Fin 1 → ℕ) (hoff : off = ![128 * n]) (inb : ∀ a, off a + S128.size a ≤ S10496.size a)
    (g : S2x128x128.Idx → Elt F .f32)
    (hnum : S128.numel = S128x128.size (gathers_S10000x128_S128x128).axis')
    (hin' : ∀ x, ((((Memref.whole cc5_scratch0 : Memref sig .scVector .vmem S10496 .i32).slice (Rect.unit (s := S10496) off S128.size inb) (fun _ => rfl)).view.read (Elt F)
        ((iRowK L).view.read (Elt F) Ix)) x).toNat < S10000x128.size (gathers_S10000x128_S128x128).axis) :
    RowsOK L Tx Ix 0 n (View.write (Elt F) (rwK0).view g
      (SparseCore.gatherPayload gathers_S10000x128_S128x128 ((shAllK).view.read (Elt F) Tx)
        (SparseCore.rows (((Memref.whole cc5_scratch0 : Memref sig .scVector .vmem S10496 .i32).slice (Rect.unit (s := S10496) off S128.size inb) (fun _ => rfl)).view.read (Elt F)
          ((iRowK L).view.read (Elt F) Ix)) hnum hin')) Finset.univ) := by
  subst hoff
  intro r j
  rw [write_rwK0, Cert.Proof.GatherReadB2.gatherPayload_apply, shAll_read]
  congr 2
  exact Fin.ext (window_row L Ix n hn inb hin' r)

/-- SLOT 1 AFTER ITS GATHER. -/
theorem rows_ok1 (n : ℕ) (hn : n ≤ 81) (off : Fin 1 → ℕ) (hoff : off = ![128 * n]) (inb : ∀ a, off a + S128.size a ≤ S10496.size a)
    (g : S2x128x128.Idx → Elt F .f32)
    (hnum : S128.numel = S128x128.size (gathers_S10000x128_S128x128).axis')
    (hin' : ∀ x, ((((Memref.whole cc5_scratch0 : Memref sig .scVector .vmem S10496 .i32).slice (Rect.unit (s := S10496) off S128.size inb) (fun _ => rfl)).view.read (Elt F)
        ((iRowK L).view.read (Elt F) Ix)) x).toNat < S10000x128.size (gathers_S10000x128_S128x128).axis) :
    RowsOK L Tx Ix 1 n (View.write (Elt F) (rwK1).view g
      (SparseCore.gatherPayload gathers_S10000x128_S128x128 ((shAllK).view.read (Elt F) Tx)
        (SparseCore.rows (((Memref.whole cc5_scratch0 : Memref sig .scVector .vmem S10496 .i32).slice (Rect.unit (s := S10496) off S128.size inb) (fun _ => rfl)).view.read (Elt F)
          ((iRowK L).view.read (Elt F) Ix)) hnum hin')) Finset.univ) := by
  subst hoff
  intro r j
  rw [write_rwK1, Cert.Proof.GatherReadB2.gatherPayload_apply, shAll_read]
  congr 2
  exact Fin.ext (window_row L Ix n hn inb hin' r)

end Steps

/-! ## A result chunk after its copy-out -/

/-- Slot 0 / 1 of the result scratch: element (r', j) is the scratch's element (b, r', j). -/
theorem obK0_emb (r' : Fin 4) (j : Fin 128) : (obK0).view.emb (ix2 r' j : S4x128.Idx) = (ix3 (0 : Fin 2) r' j : S2x4x128.Idx) := by
  have hk : Shape.reshapeEquiv (s := S1x4x128) (s' := S4x128) (squeezes_S1x4x128_S4x128).numel_eq (ix2 r' j : S4x128.Idx)
      = (ix3 (0 : Fin 1) r' j : S1x4x128.Idx) :=
    Shape.reshapeEquiv_eq_of_rowMajor _ (by
      show ((⟨3, ![1, 4, 128]⟩ : Shape).rowMajor (ix3 (0 : Fin 1) r' j) : ℕ) = ((⟨2, ![4, 128]⟩ : Shape).rowMajor (ix2 r' j) : ℕ)
      rw [Shape.rowMajor_val_three, Shape.rowMajor_val_two]; simp)
  show (Rect.unit (s := S2x4x128) ![0, 0, 0] S1x4x128.size inb_S2x4x128_S1x4x128_0_0_0).emb
    (Shape.reshapeEquiv (s := S1x4x128) (s' := S4x128) (squeezes_S1x4x128_S4x128).numel_eq (ix2 r' j : S4x128.Idx)) = _
  rw [hk]
  funext a
  refine Fin.ext ?_
  match a with
  | ⟨0, _⟩ => show 0 + 1 * 0 = 0; rfl
  | ⟨1, _⟩ => show 0 + 1 * r'.val = r'.val; omega
  | ⟨2, _⟩ => show 0 + 1 * j.val = j.val; omega
theorem obK1_emb (r' : Fin 4) (j : Fin 128) : (obK1).view.emb (ix2 r' j : S4x128.Idx) = (ix3 (1 : Fin 2) r' j : S2x4x128.Idx) := by
  have hk : Shape.reshapeEquiv (s := S1x4x128) (s' := S4x128) (squeezes_S1x4x128_S4x128).numel_eq (ix2 r' j : S4x128.Idx)
      = (ix3 (0 : Fin 1) r' j : S1x4x128.Idx) :=
    Shape.reshapeEquiv_eq_of_rowMajor _ (by
      show ((⟨3, ![1, 4, 128]⟩ : Shape).rowMajor (ix3 (0 : Fin 1) r' j) : ℕ) = ((⟨2, ![4, 128]⟩ : Shape).rowMajor (ix2 r' j) : ℕ)
      rw [Shape.rowMajor_val_three, Shape.rowMajor_val_two]; simp)
  show (Rect.unit (s := S2x4x128) ![1, 0, 0] S1x4x128.size inb_S2x4x128_S1x4x128_1_0_0).emb
    (Shape.reshapeEquiv (s := S1x4x128) (s' := S4x128) (squeezes_S1x4x128_S4x128).numel_eq (ix2 r' j : S4x128.Idx)) = _
  rw [hk]
  funext a
  refine Fin.ext ?_
  match a with
  | ⟨0, _⟩ => show 1 + 1 * 0 = 1; rfl
  | ⟨1, _⟩ => show 0 + 1 * r'.val = r'.val; omega
  | ⟨2, _⟩ => show 0 + 1 * j.val = j.val; omega

section Chunk

variable (L : grid5.Coords) (Tx : S10000x128.Idx → Elt F .f32) (Ix : S32x10496.Idx → Elt F .i32)

/-- The result chunk of trip `t`, slot `b`: its element (r', j) is the output's element at row 640·(L 1) + 320·(L 0) + 8·t + 4·b + r'. -/
theorem oChunk_emb (t : Fin k5_t1_loop.trips) (b : Fin 2) (r' : Fin 4) (j : Fin 128)
    (h : 640 * (L 1).val + 320 * (L 0).val + 8 * t.val + 4 * b.val + r'.val < 10240) :
    (oChunkK L t b).view.emb (ix2 r' j : S4x128.Idx)
      = (ix2 (⟨640 * (L 1).val + 320 * (L 0).val + 8 * t.val + 4 * b.val + r'.val, h⟩ : Fin 10240) j : S10240x128.Idx) := by
  show (Rect.unit (s := S10240x128) (k5_off20 L t (BitVec.ofNat 32 b.val)) S4x128.size (k5_off20_inb L t b)).emb (ix2 r' j : S4x128.Idx) = _
  have h1 := k5_off20_eq L t b
  funext a
  refine Fin.ext ?_
  rw [Rect.emb_apply]
  match a with
  | ⟨0, _⟩ =>
    show (k5_off20 L t (BitVec.ofNat 32 b.val)) 0 + 1 * r'.val = 640 * (L 1).val + 320 * (L 0).val + 8 * t.val + 4 * b.val + r'.val
    rw [h1]; simp
  | ⟨1, _⟩ =>
    show (k5_off20 L t (BitVec.ofNat 32 b.val)) 1 + 1 * j.val = j.val
    rw [h1]; simp

variable [FloatOps F]

/-- A row's sum as the kernel's invariant names it is that row of the neighbour-sum array. -/
theorem rowSum_eq (m : ℕ) (hm : m < 320) (j : Fin 128) :
    rowSum L Tx Ix m j
      = Cert.Proof.KB.gsumF (F := F) Tx Ix (ix2 (⟨320 * (2 * (L 1).val + (L 0).val) + m, by
          have h1 : (L 1).val < 16 := (L 1).isLt
          have h0 : (L 0).val < 2 := (L 0).isLt
          omega⟩ : Fin 10240) j) := by
  have h1 : (L 1).val < 16 := (L 1).isLt
  have h0 : (L 0).val < 2 := (L 0).isLt
  have e1 : (320 * (2 * (L 1).val + (L 0).val) + m) / 320 = 2 * (L 1).val + (L 0).val := by omega
  have e2 : (320 * (2 * (L 1).val + (L 0).val) + m) % 320 = m := by omega
  unfold rowSum
  show _ = (Cert.Proof.KB.tree32 fun k : Fin 32 =>
    Tx (ix2
      ⟨(Ix (ix2 ⟨(320 * (2 * (L 1).val + (L 0).val) + m) / 320, by omega⟩
          ⟨32 * ((320 * (2 * (L 1).val + (L 0).val) + m) % 320) + k.val, by omega⟩)).toNat % 10000, Nat.mod_lt _ (by decide)⟩ j))
  congr 1
  funext k
  congr 2
  refine Fin.ext ?_
  unfold idxAt
  show ((iRowK L).view.read (Elt F) Ix (ix1 ⟨(32 * m + k.val) % 10496, Nat.mod_lt _ (by decide)⟩)).toNat % 10000 = _
  have hp : 32 * m + k.val < 10496 := by have := k.isLt; omega
  have e : (⟨(32 * m + k.val) % 10496, Nat.mod_lt _ (by decide)⟩ : Fin 10496) = ⟨32 * m + k.val, hp⟩ := Fin.ext (Nat.mod_eq_of_lt hp)
  rw [e, View.read_apply, Cert.Proof.KB.iRow_emb2 L _ hp]
  show (Ix (ix2 (Cert.Proof.KB.wid (Cert.Proof.KB.cL2 L) (Cert.Proof.KB.jL2 L)) (⟨32 * m + k.val, hp⟩ : Fin 10496))).toNat % 10000 = _
  congr 3
  congr 1
  · exact Fin.ext e1.symm
  · exact Fin.ext (by show 32 * m + k.val = 32 * ((320 * (2 * (L 1).val + (L 0).val) + m) % 320) + k.val; rw [e2])

/-- THE CHUNK OF SLOT 0 AFTER ITS COPY-OUT holds its rows of the neighbour-sum array, when the slot of the result scratch held
    the four tree sums. -/
theorem chunk_ok0 (k : Fin k5_t1_loop.trips) (fc : S10240x128.Idx → Elt F .f32) (fob : S2x4x128.Idx → Elt F .f32)
    (hs : SumsOK L Tx Ix 0 (2 * k.val) 4 fob) :
    ChunkOK L Tx Ix k 0 ((oChunkK L k 0).view.writes (Elt F) fc [⟨Rect.whole S4x128, ReadAs.same.apply ((obK0).view.read (Elt F) fob)⟩]) := by
  intro x hx
  have hk : k.val < 40 := lt_of_lt_of_eq k.isLt trips_eq
  have h1 : (L 1).val < 16 := (L 1).isLt
  have h0 : (L 0).val < 2 := (L 0).isLt
  obtain ⟨y, -, rfl⟩ := Finset.mem_map.mp hx
  obtain ⟨r', j, rfl⟩ : ∃ (r' : Fin 4) (j : Fin 128), y = (ix2 r' j : S4x128.Idx) := ⟨y 0, y 1, ValueIdx.eq_ix2 y⟩
  have h := View.read_writes_cons_emb (Val := Elt F) (oChunkK L k 0).view fc (Rect.whole S4x128)
    (ReadAs.same.apply ((obK0).view.read (Elt F) fob)) [] (ix2 r' j : S4x128.Idx)
  rw [Rect.emb_whole_apply, View.read_apply, ReadAs.apply_same, View.read_apply] at h
  simp only [cast_eq] at h
  have hrow : 640 * (L 1).val + 320 * (L 0).val + 8 * k.val + 4 * (0 : Fin 2).val + r'.val < 10240 := by
    have := r'.isLt; show 640 * (L 1).val + 320 * (L 0).val + 8 * k.val + 4 * 0 + r'.val < 10240; omega
  rw [h, obK0_emb r' j, hs r' j r'.isLt, rowSum_eq L Tx Ix (4 * (2 * k.val) + r'.val) (by have := r'.isLt; omega) j,
    oChunk_emb L k 0 r' j hrow]
  congr 2
  exact Fin.ext (by
    show 320 * (2 * (L 1).val + (L 0).val) + (4 * (2 * k.val) + r'.val) = 640 * (L 1).val + 320 * (L 0).val + 8 * k.val + 4 * 0 + r'.val
    omega)

/-- THE CHUNK OF SLOT 1 AFTER ITS COPY-OUT holds its rows of the neighbour-sum array, when the slot of the result scratch held
    the four tree sums. -/
theorem chunk_ok1 (k : Fin k5_t1_loop.trips) (fc : S10240x128.Idx → Elt F .f32) (fob : S2x4x128.Idx → Elt F .f32)
    (hs : SumsOK L Tx Ix 1 (2 * k.val + 1) 4 fob) :
    ChunkOK L Tx Ix k 1 ((oChunkK L k 1).view.writes (Elt F) fc [⟨Rect.whole S4x128, ReadAs.same.apply ((obK1).view.read (Elt F) fob)⟩]) := by
  intro x hx
  have hk : k.val < 40 := lt_of_lt_of_eq k.isLt trips_eq
  have h1 : (L 1).val < 16 := (L 1).isLt
  have h0 : (L 0).val < 2 := (L 0).isLt
  obtain ⟨y, -, rfl⟩ := Finset.mem_map.mp hx
  obtain ⟨r', j, rfl⟩ : ∃ (r' : Fin 4) (j : Fin 128), y = (ix2 r' j : S4x128.Idx) := ⟨y 0, y 1, ValueIdx.eq_ix2 y⟩
  have h := View.read_writes_cons_emb (Val := Elt F) (oChunkK L k 1).view fc (Rect.whole S4x128)
    (ReadAs.same.apply ((obK1).view.read (Elt F) fob)) [] (ix2 r' j : S4x128.Idx)
  rw [Rect.emb_whole_apply, View.read_apply, ReadAs.apply_same, View.read_apply] at h
  simp only [cast_eq] at h
  have hrow : 640 * (L 1).val + 320 * (L 0).val + 8 * k.val + 4 * (1 : Fin 2).val + r'.val < 10240 := by
    have := r'.isLt; show 640 * (L 1).val + 320 * (L 0).val + 8 * k.val + 4 * 1 + r'.val < 10240; omega
  rw [h, obK1_emb r' j, hs r' j r'.isLt, rowSum_eq L Tx Ix (4 * (2 * k.val + 1) + r'.val) (by have := r'.isLt; omega) j,
    oChunk_emb L k 1 r' j hrow]
  congr 2
  exact Fin.ext (by
    show 320 * (2 * (L 1).val + (L 0).val) + (4 * (2 * k.val + 1) + r'.val) = 640 * (L 1).val + 320 * (L 0).val + 8 * k.val + 4 * 1 + r'.val
    omega)

end Chunk

end Cert.Proof.TileB2

end
-- ==== Proof.BodyTripVC2K.lean ====
/-
  One trip of the gather-sum kernel's forty, with what the buffers hold: from the valued invariant to itself one trip on.
  The slot's gather leaves the table rows its index chunk names; the inner loop leaves the four tree sums; the copy-out's
  chunk holds its rows of the neighbour-sum array.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC2K
import proofs.«205366_g3083786518796_cont_9to1_852_38_alg».proof.Proof.BodyLemmasC2K
import proofs.«205366_g3083786518796_cont_9to1_852_38_alg».proof.Proof.BodyInvC2K
import proofs.«205366_g3083786518796_cont_9to1_852_38_alg».proof.Proof.BodyJoinC2K
import proofs.«205366_g3083786518796_cont_9to1_852_38_alg».proof.Proof.GSumK
import proofs.«205366_g3083786518796_cont_9to1_852_38_alg».proof.Proof.BodyInvVC2K
import proofs.«205366_g3083786518796_cont_9to1_852_38_alg».proof.Proof.BodyTripC2K
import proofs.«205366_g3083786518796_cont_9to1_852_38_alg».proof.Proof.BodyStepVC2K
import proofs.«205366_g3083786518796_cont_9to1_852_38_alg».proof.Proof.BodyInnerVC2K
import proofs.«205366_g3083786518796_cont_9to1_852_38_alg».proof.Proof.BodyStepsVC2K
import Idealize.ShloMosaic.Lib.ValueIdx

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

section Body
variable (d : Dev nD) (L : grid5.Coords)

open Idealize.ShloMosaic.ValueIdx (ix1 ix2 ix3)

set_option maxHeartbeats 8000000 in
/-- The first trip: no copy-out is pending. -/
theorem trip0V (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (HR0f : ∀ (n : ℕ) (h : Buf (Elt F) ((V d (cV L) (jV L)).loc cc5_scratch1)) (_ : RowsOK L Tx Ix 0 n h) (k : Fin k5_t1_loop.trips) (v2 : BitVec 32) (k2 : Fin k5_t2_loop.trips) (x : PUnit),
      innerInv0 (U := U) d L Tx Ix Finset.univ n h k2.val x ⊢ wp frame (wpE (defs₀ (F := F)) 𝒱₀ (V d (cV L) (jV L)) none) Set.univ
        (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k k2 x) (fun y => innerInv0 (U := U) d L Tx Ix Finset.univ n h (k2.val + 1) y))
    (HR0 : ∀ (n : ℕ) (h : Buf (Elt F) ((V d (cV L) (jV L)).loc cc5_scratch1)) (_ : RowsOK L Tx Ix 0 n h) (k : Fin k5_t1_loop.trips) (v2 : BitVec 32) (k2 : Fin k5_t2_loop.trips) (x : PUnit),
      innerInv0 (U := U) d L Tx Ix (Finset.univ \ (obK1).view.set) n h k2.val x ⊢ wp frame (wpE (defs₀ (F := F)) 𝒱₀ (V d (cV L) (jV L)) none) Set.univ
        (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k k2 x) (fun y => innerInv0 (U := U) d L Tx Ix (Finset.univ \ (obK1).view.set) n h (k2.val + 1) y))
    (HR1 : ∀ (n : ℕ) (h : Buf (Elt F) ((V d (cV L) (jV L)).loc cc5_scratch1)) (_ : RowsOK L Tx Ix 1 n h) (k : Fin k5_t1_loop.trips) (v2 arg11 : BitVec 32) (k3 : Fin k5_t3_loop.trips) (x : PUnit),
      innerInv1 (U := U) d L Tx Ix n h k3.val x ⊢ wp frame (wpE (defs₀ (F := F)) 𝒱₀ (V d (cV L) (jV L)) none) Set.univ
        (k5_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k arg11 k3 x) (fun y => innerInv1 (U := U) d L Tx Ix n h (k3.val + 1) y))
    (HG0 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 0 n (View.write (Elt F) (rwK0).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HG1 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 1 n (View.write (Elt F) (rwK1).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HC0 : ∀ (k : Fin k5_t1_loop.trips) (fc : S10240x128.Idx → Elt F .f32) (fob : S2x4x128.Idx → Elt F .f32), SumsOK L Tx Ix 0 (2 * k.val) 4 fob →
      ChunkOK L Tx Ix k 0 ((oChunkK L k 0).view.writes (Elt F) fc [⟨Rect.whole S4x128, ReadAs.same.apply ((obK0).view.read (Elt F) fob)⟩]))
    (HC1 : ∀ (k : Fin k5_t1_loop.trips) (fc : S10240x128.Idx → Elt F .f32) (fob : S2x4x128.Idx → Elt F .f32), SumsOK L Tx Ix 1 (2 * k.val + 1) 4 fob →
      ChunkOK L Tx Ix k 1 ((oChunkK L k 1).view.writes (Elt F) fc [⟨Rect.whole S4x128, ReadAs.same.apply ((obK1).view.read (Elt F) fob)⟩]))
    (O : CellTallies nD τ sig (HIx 3)) (W : Waits sig (HIx 3)) (v2 : BitVec 32)
    (k : Fin k5_t1_loop.trips) (hk : k.val = 0) (x : PUnit) :
    tripInvV (U := U) d L Tx Ix O W k.val x
      ⊢ wp frame (wpE (defs₀ (F := F)) 𝒱₀ (V d (cV L) (jV L)) none) Set.univ
          (k5_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k x)
          fun y => tripInvV (U := U) d L Tx Ix O W (k.val + 1) y := by
  have hc1 := cond1_zero hk
  have hc2 := cond2_zero hk
  have hrow : (k.val + 1 ≠ k.val) := Nat.succ_ne_self _
  unfold tripInvV
  rw [if_pos hk, if_pos hk]
  unfold gFl0 gFl1
  iintro ⟨#Hmw, ⟨%fr0, %fr1, %hrows, ⟨FG0, Hix0⟩, ⟨FG1, Hix1⟩⟩, ⟨%frr, Hrwr⟩, Hsh0, Hsh1, ⟨%fob, Hob, Hso0, Hso1⟩, Hrows, ⟨%W', %hW', HO⟩⟩
  ihave Hr := (Entails.of_eq (SparseCore.bigSep_erase' (Φ := fun t' : Fin k5_t1_loop.trips => rowStV (U := U) (F := F) d L Tx Ix k.val t') (Finset.mem_univ k))) $$ Hrows
  icases Hr with ⟨Hrow, Hrest⟩
  ihave Hrow' := (Entails.of_eq (rowStV_todo (F := F) (U := U) d L Tx Ix hrow (Nat.lt_irrefl _))) $$ Hrow
  icases Hrow' with ⟨⟨%fc0, Hoc0⟩, ⟨%fc1, Hoc1⟩⟩
  unfold k5_t1_body
  -- slot 0: its gather waited for
  sl_exec
  -- slot 0 of the row scratch, back from its gather, joined to what is held of the scratch
  ihave Hj := (pts_joinV (F := F) (U := U) (sdiff_join_disj rw_slots_disjoint) fr0 frr) $$ [FG0_dst Hrwr]
  · isplitl [FG0_dst]; · iexact FG0_dst
    iexact Hrwr
  icases Hj with ⟨%g1, %hg1, Hrw⟩
  have hr1 : RowsOK L Tx Ix 0 (2 * k.val) g1 := RowsOK_of_eq0 (F := F) L Tx Ix hrows.1 hg1
  rw [sdiff_join_left rw_slots_disjoint]
  -- the four sums of slot 0
  sl_for (innerInv0 (U := U) d L Tx Ix Finset.univ (2 * k.val) g1) $$ [Hrw Hob]
  case region =>
    intro k2 x2
    exact HR0f (2 * k.val) g1 hr1 k v2 k2 x2
  · unfold innerInv0
    iexists fob; isplitr; · ipureintro; exact SumsOK_zero (F := F) L Tx Ix 0 _ _
    isplitl [Hrw]; · iexact Hrw
    iexact Hob
  iintro %_ HI
  unfold innerInv0
  icases HI with ⟨%fobA, %hsA, Hrw, Hob⟩
  have hsA4 : SumsOK L Tx Ix 0 (2 * k.val) 4 fobA := hsA
  -- slot 0 copied out, its next gather started; slot 1's gather waited for
  sl_exec
  -- slot 1 of the row scratch joined
  ihave Hj := (pts_joinV (F := F) (U := U) (sdiff_join_disj rw_slots_disjoint.symm) fr1 _) $$ [FG1_dst Hrw]
  · isplitl [FG1_dst]; · iexact FG1_dst
    iexact Hrw
  icases Hj with ⟨%g2, %hg2, Hrw⟩
  have hr2 : RowsOK L Tx Ix 1 (2 * k.val + 1) g2 := RowsOK_of_eq1 (F := F) L Tx Ix hrows.2 hg2
  rw [sdiff_join_left rw_slots_disjoint.symm]
  -- the four sums of slot 1
  sl_for (innerInv1 (U := U) d L Tx Ix (2 * k.val + 1) g2) $$ [Hrw Hob]
  case region =>
    intro k3 x3
    exact HR1 (2 * k.val + 1) g2 hr2 k v2 _ k3 x3
  · unfold innerInv1
    iexists fobA; isplitr; · ipureintro; exact SumsOK_zero (F := F) L Tx Ix 1 _ _
    isplitl [Hrw]; · iexact Hrw
    iexact Hob
  iintro %_ HI
  unfold innerInv1
  icases HI with ⟨%fobB, %hsB, Hrw, Hob⟩
  have hsB4 : SumsOK L Tx Ix 1 (2 * k.val + 1) 4 fobB := hsB
  -- slot 1 copied out, its next gather started
  sl_exec
  sl_step
  -- the invariant, one trip on
  have h40 := lt_of_lt_of_eq k.isLt k5_trips_eq
  have hoff0 : k5_off21 k 0#32 = ![128 * (2 * (k.val + 1))] := by
    have h := k5_off21_eq k (0 : Fin 2)
    rw [show (BitVec.ofNat 32 ((0 : Fin 2) : ℕ)) = 0#32 from rfl] at h
    rw [h]; congr 1; simp; omega
  have hoff1 : k5_off21 k 1#32 = ![128 * (2 * (k.val + 1) + 1)] := by
    have h := k5_off21_eq k (1 : Fin 2)
    rw [show (BitVec.ofNat 32 ((1 : Fin 2) : ℕ)) = 1#32 from rfl] at h
    rw [h]; congr 1; simp; omega
  rw [if_neg (Nat.succ_ne_zero k.val), if_neg (Nat.succ_ne_zero k.val), Nat.add_sub_cancel, tFin_val]
  unfold oFl0 oFl1
  isplitr; · iexact Hmw
  isplitl [FG0 Hix0 FG1 Hix1]
  · iexists _; iexists _
    isplitr
    swap
    · isplitl [FG0 Hix0]
      · isplitl [FG0]; · iexact FG0
        iexact Hix0
      · isplitl [FG1]; · iexact FG1
        iexact Hix1
    ipureintro
    exact ⟨HG0 (2 * (k.val + 1)) (by omega) _ hoff0 _ _ _ _, HG1 (2 * (k.val + 1) + 1) (by omega) _ hoff1 _ _ _ _⟩
  isplitl [Hrw]; · iexists _; iexact Hrw
  isplitl [Hsh0]; · iexact Hsh0
  isplitl [Hsh1]; · iexact Hsh1
  isplitl [Hso0 Hso1 Hob]
  · iexists _; iexists _; iexists _; iexists _; iexists _
    isplitr
    swap
    · isplitl [Hso0]; · iexact Hso0
      isplitl [Hso1]; · iexact Hso1
      iexact Hob
    ipureintro
    exact ⟨HC0 k _ _ hsA4, HC1 k _ _ hsB4⟩
  isplitl [Hrest]; · iapply (rows_step0V (F := F) (U := U) d L Tx Ix k hk); iexact Hrest
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 8000000 in
/-- A later trip: the previous trip's two copy-outs are pending. -/
theorem tripSV (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (HR0f : ∀ (n : ℕ) (h : Buf (Elt F) ((V d (cV L) (jV L)).loc cc5_scratch1)) (_ : RowsOK L Tx Ix 0 n h) (k : Fin k5_t1_loop.trips) (v2 : BitVec 32) (k2 : Fin k5_t2_loop.trips) (x : PUnit),
      innerInv0 (U := U) d L Tx Ix Finset.univ n h k2.val x ⊢ wp frame (wpE (defs₀ (F := F)) 𝒱₀ (V d (cV L) (jV L)) none) Set.univ
        (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k k2 x) (fun y => innerInv0 (U := U) d L Tx Ix Finset.univ n h (k2.val + 1) y))
    (HR0 : ∀ (n : ℕ) (h : Buf (Elt F) ((V d (cV L) (jV L)).loc cc5_scratch1)) (_ : RowsOK L Tx Ix 0 n h) (k : Fin k5_t1_loop.trips) (v2 : BitVec 32) (k2 : Fin k5_t2_loop.trips) (x : PUnit),
      innerInv0 (U := U) d L Tx Ix (Finset.univ \ (obK1).view.set) n h k2.val x ⊢ wp frame (wpE (defs₀ (F := F)) 𝒱₀ (V d (cV L) (jV L)) none) Set.univ
        (k5_t2_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 (0#32) (1#32) k k2 x) (fun y => innerInv0 (U := U) d L Tx Ix (Finset.univ \ (obK1).view.set) n h (k2.val + 1) y))
    (HR1 : ∀ (n : ℕ) (h : Buf (Elt F) ((V d (cV L) (jV L)).loc cc5_scratch1)) (_ : RowsOK L Tx Ix 1 n h) (k : Fin k5_t1_loop.trips) (v2 arg11 : BitVec 32) (k3 : Fin k5_t3_loop.trips) (x : PUnit),
      innerInv1 (U := U) d L Tx Ix n h k3.val x ⊢ wp frame (wpE (defs₀ (F := F)) 𝒱₀ (V d (cV L) (jV L)) none) Set.univ
        (k5_t3_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k arg11 k3 x) (fun y => innerInv1 (U := U) d L Tx Ix n h (k3.val + 1) y))
    (HG0 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 0 n (View.write (Elt F) (rwK0).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HG1 : ∀ (n : ℕ) (_ : n ≤ 81) (off : Fin 1 → ℕ) (_ : off = ![128 * n]) (inb : ∀ a, off a + S128.size a ≤ S10496.size a) (g : S2x128x128.Idx → Elt F .f32) hnum hin',
      RowsOK L Tx Ix 1 n (View.write (Elt F) (rwK1).view g (SparseCore.gatherPayload gathers_S10000x128_S128x128 ((shAllK).view.read (Elt F) Tx)
        (SparseCore.rows (((ixV).slice (Rect.unit (s := S10496) off S128.size inb) (fun _ => rfl)).view.read (Elt F) ((iRowK L).view.read (Elt F) Ix)) hnum hin')) Finset.univ))
    (HC0 : ∀ (k : Fin k5_t1_loop.trips) (fc : S10240x128.Idx → Elt F .f32) (fob : S2x4x128.Idx → Elt F .f32), SumsOK L Tx Ix 0 (2 * k.val) 4 fob →
      ChunkOK L Tx Ix k 0 ((oChunkK L k 0).view.writes (Elt F) fc [⟨Rect.whole S4x128, ReadAs.same.apply ((obK0).view.read (Elt F) fob)⟩]))
    (HC1 : ∀ (k : Fin k5_t1_loop.trips) (fc : S10240x128.Idx → Elt F .f32) (fob : S2x4x128.Idx → Elt F .f32), SumsOK L Tx Ix 1 (2 * k.val + 1) 4 fob →
      ChunkOK L Tx Ix k 1 ((oChunkK L k 1).view.writes (Elt F) fc [⟨Rect.whole S4x128, ReadAs.same.apply ((obK1).view.read (Elt F) fob)⟩]))
    (O : CellTallies nD τ sig (HIx 3)) (W : Waits sig (HIx 3)) (v2 : BitVec 32)
    (k : Fin k5_t1_loop.trips) (hk : k.val ≠ 0) (x : PUnit) :
    tripInvV (U := U) d L Tx Ix O W k.val x
      ⊢ wp frame (wpE (defs₀ (F := F)) 𝒱₀ (V d (cV L) (jV L)) none) Set.univ
          (k5_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k x)
          fun y => tripInvV (U := U) d L Tx Ix O W (k.val + 1) y := by
  have hc1 := cond1_pos k hk
  have hc2 := cond2_pos k hk
  have hrow : (k.val + 1 ≠ k.val) := Nat.succ_ne_self _
  unfold tripInvV
  rw [if_neg hk, if_neg hk]
  unfold gFl0 gFl1 oFl0 oFl1
  iintro ⟨#Hmw, ⟨%fr0, %fr1, %hrows, ⟨FG0, Hix0⟩, ⟨FG1, Hix1⟩⟩, ⟨%frr, Hrwr⟩, Hsh0, Hsh1, ⟨%fob, %fc0p, %fc1p, %fob0, %fob1, %hchk, FO0, FO1, Hobr⟩, Hrows, ⟨%W', %hW', HO⟩⟩
  ihave Hr := (Entails.of_eq (SparseCore.bigSep_erase' (Φ := fun t' : Fin k5_t1_loop.trips => rowStV (U := U) (F := F) d L Tx Ix k.val t') (Finset.mem_univ k))) $$ Hrows
  icases Hr with ⟨Hrow, Hrest⟩
  ihave Hrow' := (Entails.of_eq (rowStV_todo (F := F) (U := U) d L Tx Ix hrow (Nat.lt_irrefl _))) $$ Hrow
  icases Hrow' with ⟨⟨%fc0, Hoc0⟩, ⟨%fc1, Hoc1⟩⟩
  unfold k5_t1_body
  -- slot 0: its gather waited for
  sl_exec
  -- slot 0 of the row scratch, back from its gather, joined to what is held of the scratch
  ihave Hj := (pts_joinV (F := F) (U := U) (sdiff_join_disj rw_slots_disjoint) fr0 frr) $$ [FG0_dst Hrwr]
  · isplitl [FG0_dst]; · iexact FG0_dst
    iexact Hrwr
  icases Hj with ⟨%g1, %hg1, Hrw⟩
  have hr1 : RowsOK L Tx Ix 0 (2 * k.val) g1 := RowsOK_of_eq0 (F := F) L Tx Ix hrows.1 hg1
  rw [sdiff_join_left rw_slots_disjoint]
  -- slot 0 of the result scratch, back from its copy-out, joined to what is held of the scratch
  ihave Hjo := (pts_join (F := F) (U := U) (sdiff_join_disj ob_slots_disjoint) fob0 fob) $$ [FO0_src Hobr]
  · isplitl [FO0_src]; · iexact FO0_src
    iexact Hobr
  icases Hjo with ⟨%go1, Hob⟩
  rw [sdiff_join_left ob_slots_disjoint]
  -- the four sums of slot 0
  sl_for (innerInv0 (U := U) d L Tx Ix (Finset.univ \ (obK1).view.set) (2 * k.val) g1) $$ [Hrw Hob]
  case region =>
    intro k2 x2
    exact HR0 (2 * k.val) g1 hr1 k v2 k2 x2
  · unfold innerInv0
    iexists go1; isplitr; · ipureintro; exact SumsOK_zero (F := F) L Tx Ix 0 _ _
    isplitl [Hrw]; · iexact Hrw
    iexact Hob
  iintro %_ HI
  unfold innerInv0
  icases HI with ⟨%fobA, %hsA, Hrw, Hob⟩
  have hsA4 : SumsOK L Tx Ix 0 (2 * k.val) 4 fobA := hsA
  -- slot 0 copied out, its next gather started; slot 1's gather waited for
  sl_exec
  -- slot 1 of the row scratch joined
  ihave Hj := (pts_joinV (F := F) (U := U) (sdiff_join_disj rw_slots_disjoint.symm) fr1 _) $$ [FG1_dst Hrw]
  · isplitl [FG1_dst]; · iexact FG1_dst
    iexact Hrw
  icases Hj with ⟨%g2, %hg2, Hrw⟩
  have hr2 : RowsOK L Tx Ix 1 (2 * k.val + 1) g2 := RowsOK_of_eq1 (F := F) L Tx Ix hrows.2 hg2
  rw [sdiff_join_left rw_slots_disjoint.symm]
  -- slot 1 of the result scratch joined
  ihave Hjo := (pts_join (F := F) (U := U) (sdiff_join_disj ob_slots_disjoint.symm) fob1 _) $$ [FO1_src Hob]
  · isplitl [FO1_src]; · iexact FO1_src
    iexact Hob
  icases Hjo with ⟨%go2, Hob⟩
  rw [sdiff_join_left ob_slots_disjoint.symm]
  -- the four sums of slot 1
  sl_for (innerInv1 (U := U) d L Tx Ix (2 * k.val + 1) g2) $$ [Hrw Hob]
  case region =>
    intro k3 x3
    exact HR1 (2 * k.val + 1) g2 hr2 k v2 _ k3 x3
  · unfold innerInv1
    iexists go2; isplitr; · ipureintro; exact SumsOK_zero (F := F) L Tx Ix 1 _ _
    isplitl [Hrw]; · iexact Hrw
    iexact Hob
  iintro %_ HI
  unfold innerInv1
  icases HI with ⟨%fobB, %hsB, Hrw, Hob⟩
  have hsB4 : SumsOK L Tx Ix 1 (2 * k.val + 1) 4 fobB := hsB
  -- slot 1 copied out, its next gather started
  sl_exec
  sl_step
  -- the invariant, one trip on
  have h40 := lt_of_lt_of_eq k.isLt k5_trips_eq
  have hoff0 : k5_off21 k 0#32 = ![128 * (2 * (k.val + 1))] := by
    have h := k5_off21_eq k (0 : Fin 2)
    rw [show (BitVec.ofNat 32 ((0 : Fin 2) : ℕ)) = 0#32 from rfl] at h
    rw [h]; congr 1; simp; omega
  have hoff1 : k5_off21 k 1#32 = ![128 * (2 * (k.val + 1) + 1)] := by
    have h := k5_off21_eq k (1 : Fin 2)
    rw [show (BitVec.ofNat 32 ((1 : Fin 2) : ℕ)) = 1#32 from rfl] at h
    rw [h]; congr 1; simp; omega
  rw [if_neg (Nat.succ_ne_zero k.val), if_neg (Nat.succ_ne_zero k.val), Nat.add_sub_cancel, tFin_val]

  isplitr; · iexact Hmw
  isplitl [FG0 Hix0 FG1 Hix1]
  · iexists _; iexists _
    isplitr
    swap
    · isplitl [FG0 Hix0]
      · isplitl [FG0]; · iexact FG0
        iexact Hix0
      · isplitl [FG1]; · iexact FG1
        iexact Hix1
    ipureintro
    exact ⟨HG0 (2 * (k.val + 1)) (by omega) _ hoff0 _ _ _ _, HG1 (2 * (k.val + 1) + 1) (by omega) _ hoff1 _ _ _ _⟩
  isplitl [Hrw]; · iexists _; iexact Hrw
  isplitl [Hsh0]; · iexact Hsh0
  isplitl [Hsh1]; · iexact Hsh1
  isplitl [FO0 FO1 Hob]
  · iexists _; iexists _; iexists _; iexists _; iexists _
    isplitr
    swap
    · isplitl [FO0]; · iexact FO0
      isplitl [FO1]; · iexact FO1
      iexact Hob
    ipureintro
    exact ⟨HC0 k _ _ hsA4, HC1 k _ _ hsB4⟩
  isplitl [Hrest FO0_dst FO1_dst]
  · iapply (rows_stepSV (F := F) (U := U) d L Tx Ix k hk fc0p fc1p hchk.1 hchk.2)
    isplitl [Hrest]; · iexact Hrest
    isplitl [FO0_dst]; · iexact FO0_dst
    iexact FO1_dst
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- One trip of the forty, with what the buffers hold. -/
theorem trip_regionV (Tx : S10000x128.Idx → Elt F .f32) (Ix : S32x10496.Idx → Elt F .i32)
    (hinR : ∀ (r : Rect S10496) (hr : ∀ a, r.stride a = 1) (x : r.shape.Idx),
      (((ixV).slice r hr).view.read (Elt F) ((iRowK L).view.read (Elt F) Ix) x).toNat < S10000x128.size (gathers_S10000x128_S128x128).axis)
    (O : CellTallies nD τ sig (HIx 3)) (W : Waits sig (HIx 3)) (v2 : BitVec 32)
    (k : Fin k5_t1_loop.trips) (x : PUnit) :
    tripInvV (U := U) d L Tx Ix O W k.val x
      ⊢ wp frame (wpE (defs₀ (F := F)) 𝒱₀ (V d (cV L) (jV L)) none) Set.univ
          (k5_t1_body L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1 v2 k x)
          fun y => tripInvV (U := U) d L Tx Ix O W (k.val + 1) y := by
  by_cases hk : k.val = 0
  · exact trip0V (F := F) (U := U) d L Tx Ix hinR
      (fun n h hr k v2 k2 x => inner_region0_first (F := F) (U := U) d L Tx Ix n h hr k v2 k2 x)
      (fun n h hr k v2 k2 x => inner_region0 (F := F) (U := U) d L Tx Ix n h hr k v2 k2 x)
      (fun n h hr k v2 a k3 x => inner_region1 (F := F) (U := U) d L Tx Ix n h hr k v2 a k3 x)
      (fun n hn off hoff inb g hnum hin' => rows_ok0 (F := F) L Tx Ix n hn off hoff inb g hnum hin')
      (fun n hn off hoff inb g hnum hin' => rows_ok1 (F := F) L Tx Ix n hn off hoff inb g hnum hin')
      (fun k fc fob hs => chunk_ok0 (F := F) L Tx Ix k fc fob hs)
      (fun k fc fob hs => chunk_ok1 (F := F) L Tx Ix k fc fob hs)
      O W v2 k hk x
  · exact tripSV (F := F) (U := U) d L Tx Ix hinR
      (fun n h hr k v2 k2 x => inner_region0_first (F := F) (U := U) d L Tx Ix n h hr k v2 k2 x)
      (fun n h hr k v2 k2 x => inner_region0 (F := F) (U := U) d L Tx Ix n h hr k v2 k2 x)
      (fun n h hr k v2 a k3 x => inner_region1 (F := F) (U := U) d L Tx Ix n h hr k v2 a k3 x)
      (fun n hn off hoff inb g hnum hin' => rows_ok0 (F := F) L Tx Ix n hn off hoff inb g hnum hin')
      (fun n hn off hoff inb g hnum hin' => rows_ok1 (F := F) L Tx Ix n hn off hoff inb g hnum hin')
      (fun k fc fob hs => chunk_ok0 (F := F) L Tx Ix k fc fob hs)
      (fun k fc fob hs => chunk_ok1 (F := F) L Tx Ix k fc fob hs)
      O W v2 k hk x

end Body
end Cert.Proof.TileB2
end
-- ==== Proof.BodyGenC2K.lean ====
/-
  The gather-sum kernel on one vector subcore, stated over ANY schedule of the barrier cells.

  The subcore's run uses the barrier's schedule only through five facts at the call's round: every sibling's cell names
  the subcore as a duty of the round, each such duty is one unit, the subcore's own round expects sixteen units, the
  staged stripe splits into what is kept and what the sixteen duties hand over, and what the subcore's own round
  collects is its read share of the whole shared table.  With these as hypotheses, and the round and the call's number
  as parameters, one text serves every call and whatever schedule the launch fixed.  The forty trips' step is a
  hypothesis too.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC2K
import proofs.«205366_g3083786518796_cont_9to1_852_38_alg».proof.Proof.BodyLemmasC2K
import proofs.«205366_g3083786518796_cont_9to1_852_38_alg».proof.Proof.BodyInvC2K
import proofs.«205366_g3083786518796_cont_9to1_852_38_alg».proof.Proof.BodyJoinC2K

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

section Body
variable (d : Dev nD) (L : grid5.Coords)

/-- The barrier kit over a schedule `Rd`, for round `r` (call `q`): every subcore's cell invariant of its SparseCore, its duty
    token in every subcore's round `r`, that each has reached round `r`, its own position at the origin of round `r`, and
    the credit for the sixteen units of its own round. -/
def bkitR (EB : Emb (URounds (GSem nD τ sig) ℕ) (MT nD τ sig (HIx 3) (Elt F) ℕ U ℕ)) (Rd : Rounds.Schedule (GSem nD τ sig) ℕ 𝕄) (r : ℕ) (q : Fin 3) (d : Dev nD) (c : Fin τ.nSC) (i : Fin τ.nSub) : sProp 𝕄 :=
  iprop((∃ κ : GSem nD τ sig → ℕ, bigSep Finset.univ fun j : Fin (grid5.bound 1) =>
      cellInv EB Rd (κ (bcell d c (j.castLE hsub5))) (bcell d c (j.castLE hsub5)))
    ∗ (bigSep Finset.univ fun j : Fin (grid5.bound 1) => dutyTok EB (bcell d c (j.castLE hsub5)) r i.val)
    ∗ (bigSep Finset.univ fun j : Fin (grid5.bound 1) => reached (D := ℕ) EB (bcell d c (j.castLE hsub5)) r)
    ∗ atPos EB (bcell d c i) r (∅ : Finset ℕ) 0
    ∗ cred (tallyAt (bcell d c i) (some q) (grid5.bound 1)))

set_option maxHeartbeats 4000000 in
/-- The kernel on vector subcore `L`: the index row and the stripe copied in and waited for (the executor); the barrier
    (the stripe's read shares handed over, every stripe's received); the two first gathers; the forty trips (the invariant
    `tripInv`, each trip `trip_region`); the four last waits. -/
theorem tile_body_gen (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid5.bound 1), (jV L).val ∈ Rd.duties (bcell d (cV L) (j.castLE hsub5)) rC)
    (hamt : ∀ j : Fin (grid5.bound 1), Rd.amount (bcell d (cV L) (j.castLE hsub5)) rC (jV L).val = 1)
    (hexp : 0 + grid5.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid5.bound 1) => Rd.payload (bcell d (cV L) (j.castLE hsub5)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (htrip : ∀ (v2 : BitVec 32) (k : Fin k5_t1_loop.trips) (x : PUnit),
      tripInv (F := F) (U := U) d L Tx Ix O
          (insert (SemLoc.reg sc_bar0, some qC) (insert (SemLoc.dma cc5_scoped1.sem, (default : HIx 3)) (insert (SemLoc.dma cc5_scoped0.sem, (default : HIx 3)) W))) k.val x
        ⊢ wp frame (wpE (defs₀ (F := F)) 𝒱₀ (V d (cV L) (jV L)) none) Set.univ
            (k5_t1_body L xV (Memref.isWhole_whole _) iV (Memref.isWhole_whole _) oV (Memref.isWhole_whole _)
              ixV (Memref.isWhole_whole _) rwV (Memref.isWhole_whole _) obV (Memref.isWhole_whole _) shV (Memref.isWhole_whole _)
              cc5_scratch4 cc5_scratch5 cc5_scoped0 cc5_scoped1 v2 k x)
            (tripInv (F := F) (U := U) d L Tx Ix O
              (insert (SemLoc.reg sc_bar0, some qC) (insert (SemLoc.dma cc5_scoped1.sem, (default : HIx 3)) (insert (SemLoc.dma cc5_scoped0.sem, (default : HIx 3)) W))) (k.val + 1)))
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f))
        ∗ (semVal (cell d L cc5_scoped0.sem) 0 ∗ semVal (cell d L cc5_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc5__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1)
          fun _ => iprop(tdT d L qx qi Tx Ix
            ∗ (atPos EB (bcell d (cV L) (jV L)) (rC + 1) (∅ : Finset ℕ) 0 ∗ reached (D := ℕ) EB (bcell d (cV L) (jV L)) (rC + 1))
            ∗ ((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f))
            ∗ (semVal (cell d L cc5_scoped0.sem) 0 ∗ semVal (cell d L cc5_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') := by
  simp only [cc5__sc_gather_sum_eq_skeleton]; unfold cc5__sc_gather_sum_skel
  unfold bkitR goT
  iintro ⟨#Hlv, ⟨⟨%κ, #Hinv⟩, Htoks, #Hrch, Hat, Hcred⟩, ⟨Hx, Hi, Ho, %fsh, Hsh⟩, ⟨⟨%f0, Hb0⟩, ⟨%f1, Hb1⟩, ⟨%f2, Hb2⟩⟩, ⟨HsA, HsB, Hg0, Hg1, Ho0, Ho1⟩, HO⟩
  have hO' : ∀ g, (O + oxV d (cV L) qC) g none = 0 := fun g => by rw [Pi.add_apply, Finsupp.add_apply, hO g, oxV_none]
  ihave Hmw1 := (show levAts (K (F := F)).L (K (F := F)).lev ⊢ Transfers.MayWaits (V d (cV L) (jV L)) (default : HIx 3) (O + oxV d (cV L) qC) from
    (K (F := F)).mayWaits_none (thr := V d (cV L) (jV L)) hO') $$ Hlv
  ihave Hmw2 := (show levAts (K (F := F)).L (K (F := F)).lev ⊢ Transfers.MayWaits (V d (cV L) (jV L)) (default : HIx 3) O from
    (K (F := F)).mayWaits_none (thr := V d (cV L) (jV L)) hO) $$ Hlv
  ihave Hx' := (Entails.of_eq (pts_x (F := F) (U := U) d L _ _).symm) $$ Hx
  ihave Hi' := (Entails.of_eq (pts_iRow (F := F) (U := U) d L _ _).symm) $$ Hi
  ihave Hsh' := (Entails.of_eq (pts_shStripe (F := F) (U := U) d L _ _).symm) $$ Hsh
  ihave Hix' := (Entails.of_eq (pts_ix (F := F) (U := U) d L _).symm) $$ Hb0
  ihave Hrw' := (Entails.of_eq (pts_rw (F := F) (U := U) d L _).symm) $$ Hb1
  ihave Hob' := (Entails.of_eq (pts_ob (F := F) (U := U) d L _).symm) $$ Hb2
  -- the index row into the index scratch, the stripe into the shared table, each waited for
  sl_exec (disch := first | exact View.amount_pos _ _ (stripe_numel_pos L) | exact View.dmaCredit_pos _ (stripe_numel_pos L))
  -- the barrier: the stripe, holding the table's rows, handed over by read shares; every stripe's share received
  unfold tile_body_gen.sl.dma0_1 tile_body_gen.sl.dma0
  ihave Hsh3 := (stripe_fix (F := F) (U := U) d L Tx fsh) $$ Hsh'
  ihave Hpk := hin_pay $$ Hsh3
  icases Hpk with ⟨Hkeep, Hpays⟩
  iapply (SparseCore.wp_subcoreBarrier 𝒱₀ none EB Rd d (sc := cV L) (i := jV L) sc_bar0 (grid5.bound 1) hsub5 (L 1) rfl κ (fun _ => rC) (jV L).val
      hmem hamt hexp (some qC) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) (8 * qC.val + 3) (fun p hp => by
        rw [Finset.mem_singleton] at hp; subst hp
        show (K (F := F)).lev (bcell d (cV L) (jV L)) (some qC) ≤ 8 * qC.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hrch1, Hgot⟩
  ihave Hall := hout_pay $$ Hgot
  -- the index scratch holds row `wid`; every window of it names rows of the table
  ihave Hix2 := (idx_fix (F := F) (U := U) d L Ix f0) $$ Hix'
  have hinR := idx_inb (F := F) L Ix hin
  ihave Hall' := (Entails.of_eq (show ((shV).view.loc (V d (cV L) (jV L)) ↦{shTok (jV L)} Tx : sProp 𝕄) = shLoc d (cV L) ↦{shTok (jV L)} Tx from rfl).symm) $$ Hall
  ihave HallS := (pointsTo_share (PosShare.mem_left_op_right (shTok (jV L)))).1 $$ Hall'
  icases HallS with ⟨HallA, HallB⟩
  ihave HixS := (pointsTo_share (PosShare.mem_left_op_right fullShare)).1 $$ Hix2
  icases HixS with ⟨HixA, HixB⟩
  -- the two first gathers
  sl_exec
  -- the forty trips
  sl_for (tripInv d L Tx Ix O (insert (SemLoc.reg sc_bar0, some qC) (insert (SemLoc.dma cc5_scoped1.sem, (default : HIx 3)) (insert (SemLoc.dma cc5_scoped0.sem, (default : HIx 3)) W)))) $$ [Hmw2 Hg0 Hg1 HixA HixB HallA HallB Hrw' Hob' Ho0 Ho1 Ho HO]
  case region =>
    intro k x
    unfold tile_body_gen.sl.prog.body_1
    exact htrip _ k x
  · unfold tripInv
    simp only [↓reduceIte]
    unfold gFl0 gFl1
    isplitr; · iexact Hmw2
    isplitl [Hg0 Hg1 HixA HixB]
    · iexists _; iexists _
      isplitl [Hg0 HixA]
      · isplitl [Hg0]; · iexact Hg0
        iexact HixA
      · isplitl [Hg1]; · iexact Hg1
        iexact HixB
    isplitl [Hrw']; · iexists _; iexact Hrw'
    isplitl [HallA]; · iexact HallA
    isplitl [HallB]; · iexact HallB
    isplitl [Hob' Ho0 Ho1]
    · iexists _
      isplitl [Hob']; · iexact Hob'
      isplitl [Ho0]; · iexact Ho0
      iexact Ho1
    isplitl [Ho]; · iapply (rows_of_chunks (F := F) (U := U) d L fo); iexact Ho
    iexists _; isplitr
    · ipureintro; exact fun p hp => .inl hp
    · iexact HO
  iintro %_ HI
  have htr : Scf.trips k5_t1_loop.lb k5_t1_loop.ub k5_t1_loop.st = 40 := by decide
  rw [htr]
  unfold tripInv
  simp only [show (40 : ℕ) ≠ 0 by decide, ↓reduceIte, show (40 : ℕ) - 1 = 39 by decide]
  unfold gFl0 gFl1 oFl0 oFl1
  icases HI with ⟨-, ⟨%fr0, %fr1, ⟨FG0, Hix0⟩, ⟨FG1, Hix1⟩⟩, ⟨%frr, Hrwr⟩, Hsh0, Hsh1, ⟨%fob, %fc0, %fc1, %fob0, %fob1, FO0, FO1, Hobr⟩, Hrows, ⟨%W', %hW', HO⟩⟩
  sl_exec
  sl_step
  unfold tdT
  -- the table's and the index row's shares, the result chunks, the shared table's read share and the kept remainder
  isplitl [Hx' Hi' Hrows FO0_dst FO1_dst Hsh0 Hsh1 Hkeep]
  · isplitl [Hx']; · iexact Hx'
    isplitl [Hi']; · iexact Hi'
    isplitl [Hrows FO0_dst FO1_dst]
    · iapply (rows_close (F := F) (U := U) d L fc0 fc1)
      isplitl [Hrows]; · iexact Hrows
      isplitl [FO0_dst]; · iexact FO0_dst
      iexact FO1_dst
    isplitl [Hsh0 Hsh1]
    · iapply (pointsTo_share (PosShare.mem_left_op_right (shTok (jV L)))).2
      isplitl [Hsh0]; · iexact Hsh0
      iexact Hsh1
    iexact Hkeep
  isplitl [Hat Hrch1]
  · isplitl [Hat]; · iexact Hat
    iexact Hrch1
  -- the scratches, whole again
  isplitl [Hix0 Hix1 FG0_dst FG1_dst Hrwr FO0_src FO1_src Hobr]
  · isplitl [Hix0 Hix1]
    · iexists _
      iapply (pointsTo_share (PosShare.mem_left_op_right fullShare)).2
      isplitl [Hix0]; · iexact Hix0
      iexact Hix1
    isplitl [FG0_dst FG1_dst Hrwr]
    · ihave H1 := (pts_join (F := F) (U := U) (sdiff_join_disj rw_slots_disjoint) fr0 frr) $$ [FG0_dst Hrwr]
      · isplitl [FG0_dst]; · iexact FG0_dst
        iexact Hrwr
      icases H1 with ⟨%g1, H1⟩
      rw [sdiff_join_left rw_slots_disjoint]
      ihave H2 := (pts_join (F := F) (U := U) Finset.disjoint_sdiff fr1 g1) $$ [FG1_dst H1]
      · isplitl [FG1_dst]; · iexact FG1_dst
        iexact H1
      icases H2 with ⟨%g2, H2⟩
      rw [sdiff_join_all]
      iexists g2; iexact H2
    · ihave H1 := (pts_join (F := F) (U := U) (sdiff_join_disj ob_slots_disjoint) fob0 fob) $$ [FO0_src Hobr]
      · isplitl [FO0_src]; · iexact FO0_src
        iexact Hobr
      icases H1 with ⟨%g1, H1⟩
      rw [sdiff_join_left ob_slots_disjoint]
      ihave H2 := (pts_join (F := F) (U := U) Finset.disjoint_sdiff fob1 g1) $$ [FO1_src H1]
      · isplitl [FO1_src]; · iexact FO1_src
        iexact H1
      icases H2 with ⟨%g2, H2⟩
      rw [sdiff_join_all]
      iexists g2; iexact H2
  -- the six semaphores at zero
  isplitl [HsA HsB FG0 FG1 FO0 FO1]
  · isplitl [HsA]; · iexact HsA
    isplitl [HsB]; · iexact HsB
    isplitl [FG0]; · iexact FG0
    isplitl [FG1]; · iexact FG1
    isplitl [FO0]; · iexact FO0
    iexact FO1
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

end Body
end Cert.Proof.TileB2
end
-- ==== Proof.BodyGenVC2K.lean ====
/-
  The gather-sum kernel on one vector subcore, stated over ANY schedule of the barrier cells.

  The subcore's run uses the barrier's schedule only through five facts at the call's round: every sibling's cell names
  the subcore as a duty of the round, each such duty is one unit, the subcore's own round expects sixteen units, the
  staged stripe splits into what is kept and what the sixteen duties hand over, and what the subcore's own round
  collects is its read share of the whole shared table.  With these as hypotheses, and the round and the call's number
  as parameters, one text serves every call and whatever schedule the launch fixed.  The forty trips' step is a
  hypothesis too.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC2K
import proofs.«205366_g3083786518796_cont_9to1_852_38_alg».proof.Proof.BodyLemmasC2K
import proofs.«205366_g3083786518796_cont_9to1_852_38_alg».proof.Proof.BodyInvC2K
import proofs.«205366_g3083786518796_cont_9to1_852_38_alg».proof.Proof.BodyJoinC2K
import proofs.«205366_g3083786518796_cont_9to1_852_38_alg».proof.Proof.BodyGenC2K
import proofs.«205366_g3083786518796_cont_9to1_852_38_alg».proof.Proof.BodyStepVC2K
import proofs.«205366_g3083786518796_cont_9to1_852_38_alg».proof.Proof.BodyStepsVC2K

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

section Body
variable (d : Dev nD) (L : grid5.Coords)

open Idealize.ShloMosaic.ValueIdx (ix1 ix2 ix3)

section GV
variable (Tx : S10000x128.Idx → Elt F .f32) (Ix : S32x10496.Idx → Elt F .i32)

/-- Handed back, with what the chunks hold: as `tdT`, every result chunk at its rows of the neighbour-sum array. -/
def tdTV (qx qi : PosShare TreeShare) : sProp 𝕄 :=
  iprop((xLoc d ↦{qx} Tx) ∗ (iLoc d ↦[iRowSet L]{qi} Ix)
    ∗ (bigSep Finset.univ fun tb : Fin k5_t1_loop.trips × Fin 2 =>
        iprop(∃ f, (oLoc d ↦[oChunkSet L tb.1 tb.2]{fullShare} f) ∗ ⌜∀ x ∈ oChunkSet L tb.1 tb.2, f x = Cert.Proof.KB.gsumF (F := F) Tx Ix x⌝))
    ∗ (shLoc d (cV L) ↦{shTok (jV L)} Tx) ∗ (shLoc d (cV L) ↦[stripe (jL L)]{shKeep} Tx))

theorem rows_of_chunksV (fo : S10240x128.Idx → Elt F .f32) :
    (bigSep Finset.univ fun tb : Fin k5_t1_loop.trips × Fin 2 => (oLoc d ↦[oChunkSet L tb.1 tb.2]{fullShare} fo : sProp 𝕄))
    ⊢ bigSep Finset.univ fun t' : Fin k5_t1_loop.trips => rowStV (U := U) d L Tx Ix 0 t' := by
  rw [bigSep_univ_prod]
  refine bigSep_mono fun t' _ => ?_
  rw [bigSep_univ_two, rowStV_todo (F := F) (U := U) d L Tx Ix (Nat.succ_ne_zero _) (Nat.not_lt_zero _)]
  exact row_intro (F := F) (U := U) d L t' fo

theorem row_elimV (t' : Fin k5_t1_loop.trips) :
    (iprop((∃ f, ⌜ChunkOK L Tx Ix t' 0 f⌝ ∗ ((oChunkK L t' 0).view.loc (V d (cV L) (jV L)) ↦[(oChunkK L t' 0).view.set]{fullShare} f))
      ∗ (∃ f, ⌜ChunkOK L Tx Ix t' 1 f⌝ ∗ ((oChunkK L t' 1).view.loc (V d (cV L) (jV L)) ↦[(oChunkK L t' 1).view.set]{fullShare} f))) : sProp 𝕄)
    ⊢ iprop((∃ f, (oLoc d ↦[oChunkSet L t' 0]{fullShare} f) ∗ ⌜∀ x ∈ oChunkSet L t' 0, f x = Cert.Proof.KB.gsumF (F := F) Tx Ix x⌝)
        ∗ (∃ f, (oLoc d ↦[oChunkSet L t' 1]{fullShare} f) ∗ ⌜∀ x ∈ oChunkSet L t' 1, f x = Cert.Proof.KB.gsumF (F := F) Tx Ix x⌝)) := by
  iintro ⟨⟨%f0, %h0, H0⟩, ⟨%f1, %h1, H1⟩⟩
  isplitl [H0]
  · iexists f0; isplitl [H0]
    · iapply (Entails.of_eq (pts_oChunk (F := F) (U := U) d L t' 0 f0)); iexact H0
    · ipureintro; exact h0
  · iexists f1; isplitl [H1]
    · iapply (Entails.of_eq (pts_oChunk (F := F) (U := U) d L t' 1 f1)); iexact H1
    · ipureintro; exact h1

/-- All result chunks held again, each at its rows of the neighbour-sum array. -/
theorem rows_closeV (fc0 fc1 : S10240x128.Idx → Elt F .f32) (h0 : ChunkOK L Tx Ix (tFin 39) 0 fc0) (h1 : ChunkOK L Tx Ix (tFin 39) 1 fc1) :
    iprop((bigSep Finset.univ fun t' : Fin k5_t1_loop.trips => rowStV (U := U) (F := F) d L Tx Ix 40 t')
      ∗ ((oChunkK L (tFin 39) 0).view.loc (V d (cV L) (jV L)) ↦[(oChunkK L (tFin 39) 0).view.set]{fullShare} fc0)
      ∗ ((oChunkK L (tFin 39) 1).view.loc (V d (cV L) (jV L)) ↦[(oChunkK L (tFin 39) 1).view.set]{fullShare} fc1))
    ⊢ bigSep Finset.univ fun tb : Fin k5_t1_loop.trips × Fin 2 =>
        (iprop(∃ f, (oLoc d ↦[oChunkSet L tb.1 tb.2]{fullShare} f) ∗ ⌜∀ x ∈ oChunkSet L tb.1 tb.2, f x = Cert.Proof.KB.gsumF (F := F) Tx Ix x⌝) : sProp 𝕄) := by
  rw [bigSep_univ_prod]
  have hrest : Idealize.SL.BI.Entails
      (bigSep (Finset.univ.erase (tFin 39)) fun t' : Fin k5_t1_loop.trips => rowStV (U := U) (F := F) d L Tx Ix 40 t')
      (bigSep (Finset.univ.erase (tFin 39)) fun t' : Fin k5_t1_loop.trips => bigSep Finset.univ fun b : Fin 2 =>
        (iprop(∃ f, (oLoc d ↦[oChunkSet L (t', b).1 (t', b).2]{fullShare} f) ∗ ⌜∀ x ∈ oChunkSet L (t', b).1 (t', b).2, f x = Cert.Proof.KB.gsumF (F := F) Tx Ix x⌝) : sProp 𝕄)) :=
    bigSep_mono fun t' ht' => by
      have hne : t'.val + 1 ≠ 40 := fun h => (Finset.mem_erase.mp ht').1 (Fin.ext (by show t'.val = min 39 39; omega))
      have hlt : t'.val < 40 := lt_of_lt_of_eq t'.isLt k5_trips_eq
      rw [bigSep_univ_two, rowStV_done (F := F) (U := U) d L Tx Ix hne hlt]
      exact row_elimV (F := F) (U := U) d L Tx Ix t'
  iintro ⟨Hrows, H0, H1⟩
  ihave Hr := (Entails.of_eq (SparseCore.bigSep_erase' (Φ := fun t' : Fin k5_t1_loop.trips => rowStV (U := U) (F := F) d L Tx Ix 40 t') (Finset.mem_univ (tFin 39)))) $$ Hrows
  icases Hr with ⟨-, Hrest⟩
  iapply (Entails.of_eq (SparseCore.bigSep_erase' (Φ := fun t' : Fin k5_t1_loop.trips => bigSep Finset.univ fun b : Fin 2 =>
    (iprop(∃ f, (oLoc d ↦[oChunkSet L (t', b).1 (t', b).2]{fullShare} f) ∗ ⌜∀ x ∈ oChunkSet L (t', b).1 (t', b).2, f x = Cert.Proof.KB.gsumF (F := F) Tx Ix x⌝) : sProp 𝕄)) (Finset.mem_univ (tFin 39))).symm)
  isplitl [H0 H1]
  · rw [bigSep_univ_two]
    isplitl [H0]
    · iexists fc0; isplitl [H0]
      · iapply (Entails.of_eq (pts_oChunk (F := F) (U := U) d L (tFin 39) 0 fc0)); iexact H0
      · ipureintro; exact h0
    · iexists fc1; isplitl [H1]
      · iapply (Entails.of_eq (pts_oChunk (F := F) (U := U) d L (tFin 39) 1 fc1)); iexact H1
      · ipureintro; exact h1
  · iapply (SparseCore.ent hrest) $$ Hrest

end GV

set_option maxHeartbeats 4000000 in
/-- The kernel on vector subcore `L`: the index row and the stripe copied in and waited for (the executor); the barrier
    (the stripe's read shares handed over, every stripe's received); the two first gathers; the forty trips (the invariant
    `tripInv`, each trip `trip_region`); the four last waits. -/
theorem tile_body_genV (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid5.bound 1), (jV L).val ∈ Rd.duties (bcell d (cV L) (j.castLE hsub5)) rC)
    (hamt : ∀ j : Fin (grid5.bound 1), Rd.amount (bcell d (cV L) (j.castLE hsub5)) rC (jV L).val = 1)
    (hexp : 0 + grid5.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid5.bound 1) => Rd.payload (bcell d (cV L) (j.castLE hsub5)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (htrip : ∀ (v2 : BitVec 32) (k : Fin k5_t1_loop.trips) (x : PUnit),
      tripInvV (F := F) (U := U) d L Tx Ix O
          (insert (SemLoc.reg sc_bar0, some qC) (insert (SemLoc.dma cc5_scoped1.sem, (default : HIx 3)) (insert (SemLoc.dma cc5_scoped0.sem, (default : HIx 3)) W))) k.val x
        ⊢ wp frame (wpE (defs₀ (F := F)) 𝒱₀ (V d (cV L) (jV L)) none) Set.univ
            (k5_t1_body L xV (Memref.isWhole_whole _) iV (Memref.isWhole_whole _) oV (Memref.isWhole_whole _)
              ixV (Memref.isWhole_whole _) rwV (Memref.isWhole_whole _) obV (Memref.isWhole_whole _) shV (Memref.isWhole_whole _)
              cc5_scratch4 cc5_scratch5 cc5_scoped0 cc5_scoped1 v2 k x)
            (tripInvV (F := F) (U := U) d L Tx Ix O
              (insert (SemLoc.reg sc_bar0, some qC) (insert (SemLoc.dma cc5_scoped1.sem, (default : HIx 3)) (insert (SemLoc.dma cc5_scoped0.sem, (default : HIx 3)) W))) (k.val + 1)))
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f))
        ∗ (semVal (cell d L cc5_scoped0.sem) 0 ∗ semVal (cell d L cc5_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc5__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1)
          fun _ => iprop(tdTV d L Tx Ix qx qi
            ∗ (atPos EB (bcell d (cV L) (jV L)) (rC + 1) (∅ : Finset ℕ) 0 ∗ reached (D := ℕ) EB (bcell d (cV L) (jV L)) (rC + 1))
            ∗ ((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f))
            ∗ (semVal (cell d L cc5_scoped0.sem) 0 ∗ semVal (cell d L cc5_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') := by
  simp only [cc5__sc_gather_sum_eq_skeleton]; unfold cc5__sc_gather_sum_skel
  unfold bkitR goT
  iintro ⟨#Hlv, ⟨⟨%κ, #Hinv⟩, Htoks, #Hrch, Hat, Hcred⟩, ⟨Hx, Hi, Ho, %fsh, Hsh⟩, ⟨⟨%f0, Hb0⟩, ⟨%f1, Hb1⟩, ⟨%f2, Hb2⟩⟩, ⟨HsA, HsB, Hg0, Hg1, Ho0, Ho1⟩, HO⟩
  have hO' : ∀ g, (O + oxV d (cV L) qC) g none = 0 := fun g => by rw [Pi.add_apply, Finsupp.add_apply, hO g, oxV_none]
  ihave Hmw1 := (show levAts (K (F := F)).L (K (F := F)).lev ⊢ Transfers.MayWaits (V d (cV L) (jV L)) (default : HIx 3) (O + oxV d (cV L) qC) from
    (K (F := F)).mayWaits_none (thr := V d (cV L) (jV L)) hO') $$ Hlv
  ihave Hmw2 := (show levAts (K (F := F)).L (K (F := F)).lev ⊢ Transfers.MayWaits (V d (cV L) (jV L)) (default : HIx 3) O from
    (K (F := F)).mayWaits_none (thr := V d (cV L) (jV L)) hO) $$ Hlv
  ihave Hx' := (Entails.of_eq (pts_x (F := F) (U := U) d L _ _).symm) $$ Hx
  ihave Hi' := (Entails.of_eq (pts_iRow (F := F) (U := U) d L _ _).symm) $$ Hi
  ihave Hsh' := (Entails.of_eq (pts_shStripe (F := F) (U := U) d L _ _).symm) $$ Hsh
  ihave Hix' := (Entails.of_eq (pts_ix (F := F) (U := U) d L _).symm) $$ Hb0
  ihave Hrw' := (Entails.of_eq (pts_rw (F := F) (U := U) d L _).symm) $$ Hb1
  ihave Hob' := (Entails.of_eq (pts_ob (F := F) (U := U) d L _).symm) $$ Hb2
  -- the index row into the index scratch, the stripe into the shared table, each waited for
  sl_exec (disch := first | exact View.amount_pos _ _ (stripe_numel_pos L) | exact View.dmaCredit_pos _ (stripe_numel_pos L))
  -- the barrier: the stripe, holding the table's rows, handed over by read shares; every stripe's share received
  unfold tile_body_genV.sl.dma0_1 tile_body_genV.sl.dma0
  ihave Hsh3 := (stripe_fix (F := F) (U := U) d L Tx fsh) $$ Hsh'
  ihave Hpk := hin_pay $$ Hsh3
  icases Hpk with ⟨Hkeep, Hpays⟩
  iapply (SparseCore.wp_subcoreBarrier 𝒱₀ none EB Rd d (sc := cV L) (i := jV L) sc_bar0 (grid5.bound 1) hsub5 (L 1) rfl κ (fun _ => rC) (jV L).val
      hmem hamt hexp (some qC) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) (8 * qC.val + 3) (fun p hp => by
        rw [Finset.mem_singleton] at hp; subst hp
        show (K (F := F)).lev (bcell d (cV L) (jV L)) (some qC) ≤ 8 * qC.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hrch1, Hgot⟩
  ihave Hall := hout_pay $$ Hgot
  -- the index scratch holds row `wid`; every window of it names rows of the table
  ihave Hix2 := (idx_fix (F := F) (U := U) d L Ix f0) $$ Hix'
  have hinR := idx_inb (F := F) L Ix hin
  ihave Hall' := (Entails.of_eq (show ((shV).view.loc (V d (cV L) (jV L)) ↦{shTok (jV L)} Tx : sProp 𝕄) = shLoc d (cV L) ↦{shTok (jV L)} Tx from rfl).symm) $$ Hall
  ihave HallS := (pointsTo_share (PosShare.mem_left_op_right (shTok (jV L)))).1 $$ Hall'
  icases HallS with ⟨HallA, HallB⟩
  ihave HixS := (pointsTo_share (PosShare.mem_left_op_right fullShare)).1 $$ Hix2
  icases HixS with ⟨HixA, HixB⟩
  -- the two first gathers
  sl_exec
  -- the forty trips
  sl_for (tripInvV d L Tx Ix O (insert (SemLoc.reg sc_bar0, some qC) (insert (SemLoc.dma cc5_scoped1.sem, (default : HIx 3)) (insert (SemLoc.dma cc5_scoped0.sem, (default : HIx 3)) W)))) $$ [Hmw2 Hg0 Hg1 HixA HixB HallA HallB Hrw' Hob' Ho0 Ho1 Ho HO]
  case region =>
    intro k x
    unfold tile_body_genV.sl.prog.body_1
    exact htrip _ k x
  · unfold tripInvV
    simp only [↓reduceIte]
    unfold gFl0 gFl1
    isplitr; · iexact Hmw2
    isplitl [Hg0 Hg1 HixA HixB]
    · iexists _; iexists _
      isplitr
      swap
      · isplitl [Hg0 HixA]
        · isplitl [Hg0]; · iexact Hg0
          iexact HixA
        · isplitl [Hg1]; · iexact Hg1
          iexact HixB
      ipureintro
      exact ⟨rows_ok0 (F := F) L Tx Ix 0 (by omega) _ rfl _ _ _ _, rows_ok1 (F := F) L Tx Ix 1 (by omega) _ rfl _ _ _ _⟩
    isplitl [Hrw']; · iexists _; iexact Hrw'
    isplitl [HallA]; · iexact HallA
    isplitl [HallB]; · iexact HallB
    isplitl [Hob' Ho0 Ho1]
    · iexists _
      isplitl [Hob']; · iexact Hob'
      isplitl [Ho0]; · iexact Ho0
      iexact Ho1
    isplitl [Ho]; · iapply (rows_of_chunksV (F := F) (U := U) d L Tx Ix fo); iexact Ho
    iexists _; isplitr
    · ipureintro; exact fun p hp => .inl hp
    · iexact HO
  iintro %_ HI
  have htr : Scf.trips k5_t1_loop.lb k5_t1_loop.ub k5_t1_loop.st = 40 := by decide
  rw [htr]
  unfold tripInvV
  simp only [show (40 : ℕ) ≠ 0 by decide, ↓reduceIte, show (40 : ℕ) - 1 = 39 by decide]
  unfold gFl0 gFl1 oFl0 oFl1
  icases HI with ⟨-, ⟨%fr0, %fr1, -, ⟨FG0, Hix0⟩, ⟨FG1, Hix1⟩⟩, ⟨%frr, Hrwr⟩, Hsh0, Hsh1, ⟨%fob, %fc0, %fc1, %fob0, %fob1, %hchk, FO0, FO1, Hobr⟩, Hrows, ⟨%W', %hW', HO⟩⟩
  sl_exec
  sl_step
  unfold tdTV
  -- the table's and the index row's shares, the result chunks, the shared table's read share and the kept remainder
  isplitl [Hx' Hi' Hrows FO0_dst FO1_dst Hsh0 Hsh1 Hkeep]
  · isplitl [Hx']; · iexact Hx'
    isplitl [Hi']; · iexact Hi'
    isplitl [Hrows FO0_dst FO1_dst]
    · iapply (rows_closeV (F := F) (U := U) d L Tx Ix fc0 fc1 hchk.1 hchk.2)
      isplitl [Hrows]; · iexact Hrows
      isplitl [FO0_dst]; · iexact FO0_dst
      iexact FO1_dst
    isplitl [Hsh0 Hsh1]
    · iapply (pointsTo_share (PosShare.mem_left_op_right (shTok (jV L)))).2
      isplitl [Hsh0]; · iexact Hsh0
      iexact Hsh1
    iexact Hkeep
  isplitl [Hat Hrch1]
  · isplitl [Hat]; · iexact Hat
    iexact Hrch1
  -- the scratches, whole again
  isplitl [Hix0 Hix1 FG0_dst FG1_dst Hrwr FO0_src FO1_src Hobr]
  · isplitl [Hix0 Hix1]
    · iexists _
      iapply (pointsTo_share (PosShare.mem_left_op_right fullShare)).2
      isplitl [Hix0]; · iexact Hix0
      iexact Hix1
    isplitl [FG0_dst FG1_dst Hrwr]
    · ihave H1 := (pts_join (F := F) (U := U) (sdiff_join_disj rw_slots_disjoint) fr0 frr) $$ [FG0_dst Hrwr]
      · isplitl [FG0_dst]; · iexact FG0_dst
        iexact Hrwr
      icases H1 with ⟨%g1, H1⟩
      rw [sdiff_join_left rw_slots_disjoint]
      ihave H2 := (pts_join (F := F) (U := U) Finset.disjoint_sdiff fr1 g1) $$ [FG1_dst H1]
      · isplitl [FG1_dst]; · iexact FG1_dst
        iexact H1
      icases H2 with ⟨%g2, H2⟩
      rw [sdiff_join_all]
      iexists g2; iexact H2
    · ihave H1 := (pts_join (F := F) (U := U) (sdiff_join_disj ob_slots_disjoint) fob0 fob) $$ [FO0_src Hobr]
      · isplitl [FO0_src]; · iexact FO0_src
        iexact Hobr
      icases H1 with ⟨%g1, H1⟩
      rw [sdiff_join_left ob_slots_disjoint]
      ihave H2 := (pts_join (F := F) (U := U) Finset.disjoint_sdiff fob1 g1) $$ [FO1_src H1]
      · isplitl [FO1_src]; · iexact FO1_src
        iexact H1
      icases H2 with ⟨%g2, H2⟩
      rw [sdiff_join_all]
      iexists g2; iexact H2
  -- the six semaphores at zero
  isplitl [HsA HsB FG0 FG1 FO0 FO1]
  · isplitl [HsA]; · iexact HsA
    isplitl [HsB]; · iexact HsB
    isplitl [FG0]; · iexact FG0
    isplitl [FG1]; · iexact FG1
    isplitl [FO0]; · iexact FO0
    iexact FO1
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases hW' p hp with h | h
  · rcases Finset.mem_insert.mp h with h | h; · exact .inr (.inr (h ▸ rfl))
    rcases Finset.mem_insert.mp h with h | h; · exact .inr (.inl (h ▸ rfl))
    rcases Finset.mem_insert.mp h with h | h; · exact .inr (.inl (h ▸ rfl))
    exact .inl h
  · exact .inr (.inl h)

end Body
end Cert.Proof.TileB2
end
-- ==== Proof.BodyFrameVC2K.lean ====
/-
  The gather-sum kernel on one vector subcore, with what it computes: run from what the subcore is handed to what it hands
  back, every result chunk holding its rows of the neighbour-sum array; every trip of the forty proved.
-/
import proofs.«205366_g3083786518796_cont_9to1_852_38_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.BodyDefsC2K
import proofs.«205366_g3083786518796_cont_9to1_852_38_alg».proof.Proof.BodyLemmasC2K
import proofs.«205366_g3083786518796_cont_9to1_852_38_alg».proof.Proof.BodyInvC2K
import proofs.«205366_g3083786518796_cont_9to1_852_38_alg».proof.Proof.BodyJoinC2K
import proofs.«205366_g3083786518796_cont_9to1_852_38_alg».proof.Proof.GSumK
import proofs.«205366_g3083786518796_cont_9to1_852_38_alg».proof.Proof.BodyInvVC2K
import proofs.«205366_g3083786518796_cont_9to1_852_38_alg».proof.Proof.BodyTripC2K
import proofs.«205366_g3083786518796_cont_9to1_852_38_alg».proof.Proof.BodyStepVC2K
import proofs.«205366_g3083786518796_cont_9to1_852_38_alg».proof.Proof.BodyInnerVC2K
import proofs.«205366_g3083786518796_cont_9to1_852_38_alg».proof.Proof.BodyStepsVC2K
import proofs.«205366_g3083786518796_cont_9to1_852_38_alg».proof.Proof.BodyTripVC2K
import proofs.«205366_g3083786518796_cont_9to1_852_38_alg».proof.Proof.BodyGenVC2K
import Idealize.ShloMosaic.Lib.ValueIdx

noncomputable section

namespace Cert.Proof.TileB2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]
variable {U : Type} [URA U] [CountersIn U]

local notation "𝕄" => MT nD τ sig (HIx 3) (Elt F) ℕ U ℕ
local notation "xV" => (Memref.whole Cert.Kernel.main_v14_0_scv : Memref Cert.Kernel.sig Kind.scVector Space.hbm Cert.Kernel.S10000x128 EltTy.f32)
local notation "iV" => (Memref.whole Cert.Kernel.main_v7_scv : Memref Cert.Kernel.sig Kind.scVector Space.hbm Cert.Kernel.S32x10496 EltTy.i32)
local notation "oV" => (Memref.whole Cert.Kernel.main_v15_scv : Memref Cert.Kernel.sig Kind.scVector Space.hbm Cert.Kernel.S10240x128 EltTy.f32)
local notation "ixV" => (Memref.whole Cert.Kernel.cc5_scratch0 : Memref Cert.Kernel.sig Kind.scVector Space.vmem Cert.Kernel.S10496 EltTy.i32)
local notation "rwV" => (Memref.whole Cert.Kernel.cc5_scratch1 : Memref Cert.Kernel.sig Kind.scVector Space.vmem Cert.Kernel.S2x128x128 EltTy.f32)
local notation "obV" => (Memref.whole Cert.Kernel.cc5_scratch2 : Memref Cert.Kernel.sig Kind.scVector Space.vmem Cert.Kernel.S2x4x128 EltTy.f32)
local notation "shV" => (Memref.whole Cert.Kernel.cc5_scratch3 : Memref Cert.Kernel.sig Kind.scVector Space.shared Cert.Kernel.S10000x128 EltTy.f32)

section Body
variable (d : Dev nD) (L : grid5.Coords)

open Idealize.ShloMosaic.ValueIdx (ix1 ix2 ix3)

/-- The kernel on vector subcore `L`, every trip proved, the result chunks at their sums. -/
theorem tile_body_frameV (EB : Emb (URounds (GSem nD τ sig) ℕ) 𝕄) [EB.LandsIn (upEmb : UEmb _ 𝕄)]
    (Rd : Rounds.Schedule (GSem nD τ sig) ℕ 𝕄) (rC : ℕ) (qC : Fin 3) (qx qi : PosShare TreeShare)
    (Tx : S10000x128.Idx → Elt F .f32) (Ix : S32x10496.Idx → Elt F .i32) (fo : S10240x128.Idx → Elt F .f32)
    (hmem : ∀ j : Fin (grid5.bound 1), (jV L).val ∈ Rd.duties (bcell d (cV L) (j.castLE hsub5)) rC)
    (hamt : ∀ j : Fin (grid5.bound 1), Rd.amount (bcell d (cV L) (j.castLE hsub5)) rC (jV L).val = 1)
    (hexp : 0 + grid5.bound 1 = Rd.expect (bcell d (cV L) (jV L)) rC)
    (hin_pay : iprop(shLoc d (cV L) ↦[stripe (jL L)]{fullShare} Tx)
      ⊢ (iprop((shLoc d (cV L) ↦[stripe (jL L)]{shKeep} Tx)
          ∗ bigSep Finset.univ fun j : Fin (grid5.bound 1) => Rd.payload (bcell d (cV L) (j.castLE hsub5)) rC (jV L).val) : sProp 𝕄))
    (hout_pay : (bigSep (Rd.duties (bcell d (cV L) (jV L)) rC \ ∅) fun n => Rd.payload (bcell d (cV L) (jV L)) rC n)
      ⊢ (iprop(shLoc d (cV L) ↦{shTok (jV L)} Tx) : sProp 𝕄))
    (hin : ∀ x, ((iRowK L).view.read (Elt F) Ix x).toNat < 10000)
    (O : CellTallies nD τ sig (HIx 3)) (W : Waits sig (HIx 3)) (hO : ∀ g, O g none = 0)
    (hOlev : ∀ g ι, 0 < O g ι → 8 * qC.val + 6 ≤ (K (F := F)).lev g ι) :
    iprop(levAts (K (F := F)).L (K (F := F)).lev ∗ bkitR EB Rd rC qC d (cV L) (jV L)
        ∗ goT d L qx qi Tx Ix fo
        ∗ ((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f))
        ∗ (semVal (cell d L cc5_scoped0.sem) 0 ∗ semVal (cell d L cc5_scoped1.sem) 0 ∗ semVal (cell d L g0sem) 0 ∗ semVal (cell d L g1sem) 0 ∗ semVal (cell d L o0sem) 0 ∗ semVal (cell d L o1sem) 0)
        ∗ owes (V d (cV L) (jV L)) (O + oxV d (cV L) qC) W)
      ⊢ wp frame (wpE (defs₀ (F := F)) 𝒱₀ (V d (cV L) (jV L)) none) Set.univ
          (cc5__sc_gather_sum L xV (Memref.isWhole_whole _) iV (Memref.isWhole_whole _) oV (Memref.isWhole_whole _)
            ixV (Memref.isWhole_whole _) rwV (Memref.isWhole_whole _) obV (Memref.isWhole_whole _) shV (Memref.isWhole_whole _)
            cc5_scratch4 cc5_scratch5 cc5_scoped0 cc5_scoped1)
          fun _ => iprop(tdTV d L Tx Ix qx qi
            ∗ (atPos EB (bcell d (cV L) (jV L)) (rC + 1) (∅ : Finset ℕ) 0 ∗ reached (D := ℕ) EB (bcell d (cV L) (jV L)) (rC + 1))
            ∗ ((∃ f, (V d (cV L) (jV L)).loc cc5_scratch0 ↦{fullShare} f) ∗ (∃ f, (V d (cV L) (jV L)).loc cc5_scratch1 ↦{fullShare} f) ∗ (∃ f, (V d (cV L) (jV L)).loc cc5_scratch2 ↦{fullShare} f))
            ∗ (semVal (cell d L cc5_scoped0.sem) 0 ∗ semVal (cell d L cc5_scoped1.sem) 0 ∗ semVal (cell d L g0sem) 0 ∗ semVal (cell d L g1sem) 0 ∗ semVal (cell d L o0sem) 0 ∗ semVal (cell d L o1sem) 0)
            ∗ ∃ W', ⌜∀ p ∈ W', p ∈ W ∨ p.2 = none ∨ p.2 = some qC⌝ ∗ owes (V d (cV L) (jV L)) O W') :=
  tile_body_genV (F := F) (U := U) d L EB Rd rC qC qx qi Tx Ix fo hmem hamt hexp hin_pay hout_pay hin O W hO
    (fun v2 k x => trip_regionV (F := F) (U := U) d L Tx Ix (idx_inb (F := F) L Ix hin) O _ v2 k x) hOlev
end Body
end Cert.Proof.TileB2
end
-- ==== Proof.BodyChunksValK.lean ====
/-
  A worker's eighty result chunks, each holding its neighbour sums, are the worker's rows holding theirs.

  Each chunk comes back at some contents that agree, on the chunk, with the neighbour-sum array of the table and
  the index table.  Contents are read only on the set owned, so each chunk is held at that array; the eighty chunks
  are the worker's 320 rows; and the array's rows are, worker by worker, the tree sums the specification of a call
  asks for.
-/
import proofs.«205366_g3083786518796_cont_9to1_852_38_alg».proof.Proof.BodyCoverK
import proofs.«205366_g3083786518796_cont_9to1_852_38_alg».proof.Proof.GSumK

noncomputable section

namespace Cert.Proof.TileB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}
variable [FloatOps F]
variable {U : Type} [URA U] [CountersIn U]

local notation "𝕄" => MT nD τ sig (HIx 3) (Elt F) ℕ U ℕ

/-- One chunk at contents that are the neighbour sums on it is the chunk at the neighbour-sum array. -/
theorem oChunk_val (d : Dev nD) (L : grid0.Coords) (Tx : S10000x128.Idx → Elt F .f32) (Ix : S32x10496.Idx → Elt F .i32)
    (t : Fin k0_t1_loop.trips) (b : Fin 2) :
    (iprop(∃ f, (oLoc d ↦[oChunkSet L t b]{fullShare} f) ∗ ⌜∀ x ∈ oChunkSet L t b, f x = Cert.Proof.KB.gsumF (F := F) Tx Ix x⌝) : sProp 𝕄)
      ⊢ oLoc d ↦[oChunkSet L t b]{fullShare} (Cert.Proof.KB.gsumF (F := F) Tx Ix : Buf (Elt F) (oLoc d)) := by
  iintro ⟨%f, Hf, %hf⟩
  rw [← pointsTo_congr (ℓ := oLoc d) (q := fullShare) (I := oChunkSet L t b) (f := f) (g := (Cert.Proof.KB.gsumF (F := F) Tx Ix : Buf (Elt F) (oLoc d))) hf]
  iexact Hf

/-- The eighty chunks at their neighbour sums are the worker's rows at contents that are, row by row, the tree sums. -/
theorem oChunks_join_val (d : Dev nD) (L : grid0.Coords) (w : Fin 32) (hw : w.val = 2 * (L 1).val + (L 0).val)
    (Tx : S10000x128.Idx → Elt F .f32) (Ix : S32x10496.Idx → Elt F .i32) :
    (bigSep Finset.univ fun tb : Fin k0_t1_loop.trips × Fin 2 =>
        iprop(∃ f, (oLoc d ↦[oChunkSet L tb.1 tb.2]{fullShare} f) ∗ ⌜∀ x ∈ oChunkSet L tb.1 tb.2, f x = Cert.Proof.KB.gsumF (F := F) Tx Ix x⌝))
      ⊢ (iprop(∃ fo, (oLoc d ↦[(Cert.Proof.KB.outRect w).set]{fullShare} fo) ∗ ⌜Cert.Proof.KB.SumRel (F := F) w Tx Ix fo⌝) : sProp 𝕄) := by
  have h1 : (bigSep Finset.univ fun tb : Fin k0_t1_loop.trips × Fin 2 =>
        iprop(∃ f, (oLoc d ↦[oChunkSet L tb.1 tb.2]{fullShare} f) ∗ ⌜∀ x ∈ oChunkSet L tb.1 tb.2, f x = Cert.Proof.KB.gsumF (F := F) Tx Ix x⌝))
      ⊢ (bigSep Finset.univ fun tb : Fin k0_t1_loop.trips × Fin 2 =>
        oLoc d ↦[oChunkSet L tb.1 tb.2]{fullShare} (Cert.Proof.KB.gsumF (F := F) Tx Ix : Buf (Elt F) (oLoc d)) : sProp 𝕄) :=
    bigSep_mono fun tb _ => oChunk_val (F := F) (U := U) d L Tx Ix tb.1 tb.2
  have h2 : (oLoc d ↦[(Cert.Proof.KB.outRect w).set]{fullShare} (Cert.Proof.KB.gsumF (F := F) Tx Ix : Buf (Elt F) (oLoc d)) : sProp 𝕄)
      ⊢ (iprop(∃ fo, (oLoc d ↦[(Cert.Proof.KB.outRect w).set]{fullShare} fo) ∗ ⌜Cert.Proof.KB.SumRel (F := F) w Tx Ix fo⌝) : sProp 𝕄) := by
    iintro H
    iexists (Cert.Proof.KB.gsumF (F := F) Tx Ix : Buf (Elt F) (oLoc d))
    isplitl [H]; · iexact H
    ipureintro
    exact Cert.Proof.KB.gsumF_rel (F := F) Tx Ix w
  exact h1.trans ((Entails.of_eq (oPts_chunks (F := F) (U := U) d L w hw (Cert.Proof.KB.gsumF (F := F) Tx Ix : Buf (Elt F) (oLoc d))).symm).trans h2)

end Cert.Proof.TileB

end
-- ==== Proof.BodyChunksValC1K.lean ====
/-
  A worker's eighty result chunks, each holding its neighbour sums, are the worker's rows holding theirs.

  Each chunk comes back at some contents that agree, on the chunk, with the neighbour-sum array of the table and
  the index table.  Contents are read only on the set owned, so each chunk is held at that array; the eighty chunks
  are the worker's 320 rows; and the array's rows are, worker by worker, the tree sums the specification of a call
  asks for.
-/
import proofs.«205366_g3083786518796_cont_9to1_852_38_alg».proof.Proof.BodyCoverC1K
import proofs.«205366_g3083786518796_cont_9to1_852_38_alg».proof.Proof.GSumK

noncomputable section

namespace Cert.Proof.TileB1

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}
variable [FloatOps F]
variable {U : Type} [URA U] [CountersIn U]

local notation "𝕄" => MT nD τ sig (HIx 3) (Elt F) ℕ U ℕ

/-- One chunk at contents that are the neighbour sums on it is the chunk at the neighbour-sum array. -/
theorem oChunk_val (d : Dev nD) (L : grid3.Coords) (Tx : S10000x128.Idx → Elt F .f32) (Ix : S32x10496.Idx → Elt F .i32)
    (t : Fin k3_t1_loop.trips) (b : Fin 2) :
    (iprop(∃ f, (oLoc d ↦[oChunkSet L t b]{fullShare} f) ∗ ⌜∀ x ∈ oChunkSet L t b, f x = Cert.Proof.KB.gsumF (F := F) Tx Ix x⌝) : sProp 𝕄)
      ⊢ oLoc d ↦[oChunkSet L t b]{fullShare} (Cert.Proof.KB.gsumF (F := F) Tx Ix : Buf (Elt F) (oLoc d)) := by
  iintro ⟨%f, Hf, %hf⟩
  rw [← pointsTo_congr (ℓ := oLoc d) (q := fullShare) (I := oChunkSet L t b) (f := f) (g := (Cert.Proof.KB.gsumF (F := F) Tx Ix : Buf (Elt F) (oLoc d))) hf]
  iexact Hf

/-- The eighty chunks at their neighbour sums are the worker's rows at contents that are, row by row, the tree sums. -/
theorem oChunks_join_val (d : Dev nD) (L : grid3.Coords) (w : Fin 32) (hw : w.val = 2 * (L 1).val + (L 0).val)
    (Tx : S10000x128.Idx → Elt F .f32) (Ix : S32x10496.Idx → Elt F .i32) :
    (bigSep Finset.univ fun tb : Fin k3_t1_loop.trips × Fin 2 =>
        iprop(∃ f, (oLoc d ↦[oChunkSet L tb.1 tb.2]{fullShare} f) ∗ ⌜∀ x ∈ oChunkSet L tb.1 tb.2, f x = Cert.Proof.KB.gsumF (F := F) Tx Ix x⌝))
      ⊢ (iprop(∃ fo, (oLoc d ↦[(Cert.Proof.KB.outRect w).set]{fullShare} fo) ∗ ⌜Cert.Proof.KB.SumRel (F := F) w Tx Ix fo⌝) : sProp 𝕄) := by
  have h1 : (bigSep Finset.univ fun tb : Fin k3_t1_loop.trips × Fin 2 =>
        iprop(∃ f, (oLoc d ↦[oChunkSet L tb.1 tb.2]{fullShare} f) ∗ ⌜∀ x ∈ oChunkSet L tb.1 tb.2, f x = Cert.Proof.KB.gsumF (F := F) Tx Ix x⌝))
      ⊢ (bigSep Finset.univ fun tb : Fin k3_t1_loop.trips × Fin 2 =>
        oLoc d ↦[oChunkSet L tb.1 tb.2]{fullShare} (Cert.Proof.KB.gsumF (F := F) Tx Ix : Buf (Elt F) (oLoc d)) : sProp 𝕄) :=
    bigSep_mono fun tb _ => oChunk_val (F := F) (U := U) d L Tx Ix tb.1 tb.2
  have h2 : (oLoc d ↦[(Cert.Proof.KB.outRect w).set]{fullShare} (Cert.Proof.KB.gsumF (F := F) Tx Ix : Buf (Elt F) (oLoc d)) : sProp 𝕄)
      ⊢ (iprop(∃ fo, (oLoc d ↦[(Cert.Proof.KB.outRect w).set]{fullShare} fo) ∗ ⌜Cert.Proof.KB.SumRel (F := F) w Tx Ix fo⌝) : sProp 𝕄) := by
    iintro H
    iexists (Cert.Proof.KB.gsumF (F := F) Tx Ix : Buf (Elt F) (oLoc d))
    isplitl [H]; · iexact H
    ipureintro
    exact Cert.Proof.KB.gsumF_rel (F := F) Tx Ix w
  exact h1.trans ((Entails.of_eq (oPts_chunks (F := F) (U := U) d L w hw (Cert.Proof.KB.gsumF (F := F) Tx Ix : Buf (Elt F) (oLoc d))).symm).trans h2)

end Cert.Proof.TileB1

end
-- ==== Proof.BodyChunksValC2K.lean ====
/-
  A worker's eighty result chunks, each holding its neighbour sums, are the worker's rows holding theirs.

  Each chunk comes back at some contents that agree, on the chunk, with the neighbour-sum array of the table and
  the index table.  Contents are read only on the set owned, so each chunk is held at that array; the eighty chunks
  are the worker's 320 rows; and the array's rows are, worker by worker, the tree sums the specification of a call
  asks for.
-/
import proofs.«205366_g3083786518796_cont_9to1_852_38_alg».proof.Proof.BodyCoverC2K
import proofs.«205366_g3083786518796_cont_9to1_852_38_alg».proof.Proof.GSumK

noncomputable section

namespace Cert.Proof.TileB2

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}
variable [FloatOps F]
variable {U : Type} [URA U] [CountersIn U]

local notation "𝕄" => MT nD τ sig (HIx 3) (Elt F) ℕ U ℕ

/-- One chunk at contents that are the neighbour sums on it is the chunk at the neighbour-sum array. -/
theorem oChunk_val (d : Dev nD) (L : grid5.Coords) (Tx : S10000x128.Idx → Elt F .f32) (Ix : S32x10496.Idx → Elt F .i32)
    (t : Fin k5_t1_loop.trips) (b : Fin 2) :
    (iprop(∃ f, (oLoc d ↦[oChunkSet L t b]{fullShare} f) ∗ ⌜∀ x ∈ oChunkSet L t b, f x = Cert.Proof.KB.gsumF (F := F) Tx Ix x⌝) : sProp 𝕄)
      ⊢ oLoc d ↦[oChunkSet L t b]{fullShare} (Cert.Proof.KB.gsumF (F := F) Tx Ix : Buf (Elt F) (oLoc d)) := by
  iintro ⟨%f, Hf, %hf⟩
  rw [← pointsTo_congr (ℓ := oLoc d) (q := fullShare) (I := oChunkSet L t b) (f := f) (g := (Cert.Proof.KB.gsumF (F := F) Tx Ix : Buf (Elt F) (oLoc d))) hf]
  iexact Hf

/-- The eighty chunks at their neighbour sums are the worker's rows at contents that are, row by row, the tree sums. -/
theorem oChunks_join_val (d : Dev nD) (L : grid5.Coords) (w : Fin 32) (hw : w.val = 2 * (L 1).val + (L 0).val)
    (Tx : S10000x128.Idx → Elt F .f32) (Ix : S32x10496.Idx → Elt F .i32) :
    (bigSep Finset.univ fun tb : Fin k5_t1_loop.trips × Fin 2 =>
        iprop(∃ f, (oLoc d ↦[oChunkSet L tb.1 tb.2]{fullShare} f) ∗ ⌜∀ x ∈ oChunkSet L tb.1 tb.2, f x = Cert.Proof.KB.gsumF (F := F) Tx Ix x⌝))
      ⊢ (iprop(∃ fo, (oLoc d ↦[(Cert.Proof.KB.outRect w).set]{fullShare} fo) ∗ ⌜Cert.Proof.KB.SumRel (F := F) w Tx Ix fo⌝) : sProp 𝕄) := by
  have h1 : (bigSep Finset.univ fun tb : Fin k5_t1_loop.trips × Fin 2 =>
        iprop(∃ f, (oLoc d ↦[oChunkSet L tb.1 tb.2]{fullShare} f) ∗ ⌜∀ x ∈ oChunkSet L tb.1 tb.2, f x = Cert.Proof.KB.gsumF (F := F) Tx Ix x⌝))
      ⊢ (bigSep Finset.univ fun tb : Fin k5_t1_loop.trips × Fin 2 =>
        oLoc d ↦[oChunkSet L tb.1 tb.2]{fullShare} (Cert.Proof.KB.gsumF (F := F) Tx Ix : Buf (Elt F) (oLoc d)) : sProp 𝕄) :=
    bigSep_mono fun tb _ => oChunk_val (F := F) (U := U) d L Tx Ix tb.1 tb.2
  have h2 : (oLoc d ↦[(Cert.Proof.KB.outRect w).set]{fullShare} (Cert.Proof.KB.gsumF (F := F) Tx Ix : Buf (Elt F) (oLoc d)) : sProp 𝕄)
      ⊢ (iprop(∃ fo, (oLoc d ↦[(Cert.Proof.KB.outRect w).set]{fullShare} fo) ∗ ⌜Cert.Proof.KB.SumRel (F := F) w Tx Ix fo⌝) : sProp 𝕄) := by
    iintro H
    iexists (Cert.Proof.KB.gsumF (F := F) Tx Ix : Buf (Elt F) (oLoc d))
    isplitl [H]; · iexact H
    ipureintro
    exact Cert.Proof.KB.gsumF_rel (F := F) Tx Ix w
  exact h1.trans ((Entails.of_eq (oPts_chunks (F := F) (U := U) d L w hw (Cert.Proof.KB.gsumF (F := F) Tx Ix : Buf (Elt F) (oLoc d))).symm).trans h2)

end Cert.Proof.TileB2

end
-- ==== Proof.ScTileK.lean ====
/-
  Each vector subcore's task of call `q`, as the launch theorem asks it: from the task's operands, the tile's scoped
  storage, its barrier kit and what it owes, through the kernel's body, to the task's results.

  For each of the three calls the obligation is the body's statement over the launch's payloads; that follows from
  the body's statement in its own vocabulary with every result chunk at the neighbour sums, and from the eighty valued
  chunks being the worker's rows at contents related to the table and the index table as the launch asks.
-/
import proofs.«205366_g3083786518796_cont_9to1_852_38_alg».proof.Proof.ScTileAsmK
import proofs.«205366_g3083786518796_cont_9to1_852_38_alg».proof.Proof.ScTileAsm1K
import proofs.«205366_g3083786518796_cont_9to1_852_38_alg».proof.Proof.ScTileAsm2K
import proofs.«205366_g3083786518796_cont_9to1_852_38_alg».proof.Proof.BodyFrameVK
import proofs.«205366_g3083786518796_cont_9to1_852_38_alg».proof.Proof.BodyFrameVC1K
import proofs.«205366_g3083786518796_cont_9to1_852_38_alg».proof.Proof.BodyFrameVC2K
import proofs.«205366_g3083786518796_cont_9to1_852_38_alg».proof.Proof.BodyChunksValK
import proofs.«205366_g3083786518796_cont_9to1_852_38_alg».proof.Proof.BodyChunksValC1K
import proofs.«205366_g3083786518796_cont_9to1_852_38_alg».proof.Proof.BodyChunksValC2K

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (Tb : Fin 3 → Dev nD → S10000x128.Idx → F .f32) (Ib : Dev nD → S32x10496.Idx → BitVec 32)

/-! ## The kernel's body on one subcore, with the valued post, for each call: the body over the launch's barrier schedule,
whose five facts at the call's round are the launch's -/

theorem tileStmt0 : TileStmt0 (F := F) Tb Ib := fun d L qx qi fo O W hO hOlev hin =>
  Cert.Proof.TileB.tile_body_frameV (F := F) (U := UU) d L EB (bRd (F := F) Tb) 0 0 qx qi (Tb 0 d) (Ib d) fo
    (bar0_mem Tb d L) (bar0_amt Tb d L) (bar0_expect Tb d L) (bar0_pays_intro Tb d L (Tb 0 d) rfl) (bar0_pays_elim Tb d L (Tb 0 d) rfl)
    hin O W hO hOlev

theorem tileStmt1 : TileStmt1 (F := F) Tb Ib := fun d L qx qi fo O W hO hOlev hin =>
  Cert.Proof.TileB1.tile_body_frameV (F := F) (U := UU) d L EB (bRd (F := F) Tb) 1 1 qx qi (Tb 1 d) (Ib d) fo
    (bar1_mem Tb d L) (bar1_amt Tb d L) (bar1_expect Tb d L) (bar1_pays_intro Tb d L (Tb 1 d) rfl) (bar1_pays_elim Tb d L (Tb 1 d) rfl)
    hin O W hO hOlev

theorem tileStmt2 : TileStmt2 (F := F) Tb Ib := fun d L qx qi fo O W hO hOlev hin =>
  Cert.Proof.TileB2.tile_body_frameV (F := F) (U := UU) d L EB (bRd (F := F) Tb) 2 2 qx qi (Tb 2 d) (Ib d) fo
    (bar2_mem Tb d L) (bar2_amt Tb d L) (bar2_expect Tb d L) (bar2_pays_intro Tb d L (Tb 2 d) rfl) (bar2_pays_elim Tb d L (Tb 2 d) rfl)
    hin O W hO hOlev

/-! ## The eighty valued chunks are the worker's rows -/

theorem chunksVal0 : ChunksVal0 (F := F) := fun d L Tx Ix =>
  Cert.Proof.TileB.oChunks_join_val (F := F) (U := UU) d L (wid (cL0 L) (jL0 L)) (wid_eq L) Tx Ix

theorem chunksVal1 : ChunksVal1 (F := F) := fun d L Tx Ix =>
  Cert.Proof.TileB1.oChunks_join_val (F := F) (U := UU) d L (wid (cL1 L) (jL1 L)) (wid_eq1 L) Tx Ix

theorem chunksVal2 : ChunksVal2 (F := F) := fun d L Tx Ix =>
  Cert.Proof.TileB2.oChunks_join_val (F := F) (U := UU) d L (wid (cL2 L) (jL2 L)) (wid_eq2 L) Tx Ix

/-! ## The obligation -/

/-- Each vector subcore's task of call `q`. -/
theorem tileObl (q : Fin 3) : (K (F := F)).TileObl (D (F := F)) 𝒱 (P (F := F) Tb Ib) v₀ q :=
  match q with
  | 0 => tileObl0_of_body Tb Ib (bodySpec0_of_tile Tb Ib (tileStmt0 Tb Ib) chunksVal0)
  | 1 => tileObl1_of_body Tb Ib (bodySpec1_of_tile Tb Ib (tileStmt1 Tb Ib) chunksVal1)
  | 2 => tileObl2_of_body Tb Ib (bodySpec2_of_tile Tb Ib (tileStmt2 Tb Ib) chunksVal2)

end Cert.Proof.KB

end
-- ==== Proof.ScLaunchK.lean ====
/-
  The launch: from each vector subcore's task (three kernels' obligations), how a SparseCore's operands split among its
  sixteen tasks, @main on the TensorCore (three SparseCore calls, four TensorCore regions, the host operations between
  them), and the launch element of the ghost state, to every weakly fair execution of the 35 threads terminating with
  the result array at the program's value and the argument arrays unchanged.
-/
import proofs.«205366_g3083786518796_cont_9to1_852_38_alg».proof.Proof.ScMainK
import proofs.«205366_g3083786518796_cont_9to1_852_38_alg».proof.Proof.ScElemK
import proofs.«205366_g3083786518796_cont_9to1_852_38_alg».proof.Proof.ScSplitK
import proofs.«205366_g3083786518796_cont_9to1_852_38_alg».proof.Proof.ScTileK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 3) (Elt F) ℕ UU ℕ

variable (m : (ℓ : Loc nD τ sig) → Buf (Elt F) ℓ) (ρ : Dev nD → PrngReg)

/-- Every weakly fair execution of the program's threads from `m` terminates, nothing faulting, with the result array at
    the program's value `ResOf m` and the argument arrays as they were — provided every index names a row. -/
theorem run_main [∀ e, Nonempty (Elt F e)] (hok : ∀ d w, IdxOk w (IbOf m d)) :
    θ_run (Cert.Kernel.defs (F := F)) (Cert.Kernel.threads (F := F)) ⟨m, fun _ => 0, ρ⟩ (QC m (ResOf m)) :=
  SparseCore.Cfg.θ_run_sc (K := K (F := F)) (D := D (F := F)) (𝒱 := 𝒱) (EH := EH) (P := P (F := F) (TbOf m) (IbOf m)) facts v₀
    (fun q hq => absurd (kind_eq q) (by rw [hq]; decide))
    (fun q _ => tileObl (TbOf m) (IbOf m) q)
    (fun q _ => vecSplit (TbOf m) (IbOf m) q)
    m ρ main (G (F := F)) (FIN m (ResOf m)) (u₀ (F := F)) (hu₀ (TbOf m) (IbOf m)) (hmain m ρ hok) (fq m (ResOf m)) (hfin m (ResOf m))
    (QC m (ResOf m)) (hQ m (ResOf m))

end Cert.Proof.KB

end
-- ==== Proof.ScHokK.lean ====
/-
  Every entry of the index table names a node, from the input-domain predicate.

  The predicate puts every edge word in 0 … 9999; the index table's entries are edge words or 0.
-/
import proofs.«205366_g3083786518796_cont_9to1_852_38_alg».proof.Proof.ScNamesK
import proofs.«205366_g3083786518796_cont_9to1_852_38_alg».proof.Proof.PreEdge
import proofs.«205366_g3083786518796_cont_9to1_852_38_alg».proof.Proof.IdxTermK

noncomputable section

namespace Cert.Proof.KB

open Cert.Kernel Cert.Kernel.Gen
open Idealize.ShloMosaic Idealize.SL.Sem

variable {F : FTy → Type} [FloatOps F]
variable [Cert.Pre_input_domain.Facts]

/-- Under the input-domain predicate on every device, every worker's index row names rows of the table. -/
theorem idxOk_of_pre (m : (ℓ : Loc nD τ sig) → Buf (Elt F) ℓ)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) = fun _ => 1#1) :
    ∀ d w, IdxOk w (IbOf m d) := by
  intro d w k
  unfold IbOf
  exact Cert.Kernel.IdxTerm.idxOk _ (Cert.PreEdge.edge_range _ _ _ _ _ _ _ _ _ _ _ _ _ _ (hpre d)) w k

end Cert.Proof.KB

end
-- ==== Proof.KernelRun.lean ====
/-
  What the two printed kernel programs do, as the certificate's claims need it.

  The program: the padded neighbour table is laid out on the host; then, three times, a SparseCore call sums each
  node's 32 neighbour rows (a gather from the SparseCore's shared memory, a balanced tree of additions) and
  TensorCore calls apply the layer's products, bias and ELU.  At the extended reals the result array is the
  three-layer network `Cert.Spec.netKer` of the argument arrays (the neighbour table read off row 1 of `edge`),
  and the argument arrays end as they began; at the word level only the latter is claimed.
-/
import proofs.«205366_g3083786518796_cont_9to1_852_38_alg».proof.Defs
import proofs.«205366_g3083786518796_cont_9to1_852_38_alg».proof.Proof.Gen.Kernel
import proofs.«205366_g3083786518796_cont_9to1_852_38_alg».proof.Proof.Gen.KernelIdeal
import proofs.«205366_g3083786518796_cont_9to1_852_38_alg».proof.Proof.Gen.Pre_input_domain
import proofs.«205366_g3083786518796_cont_9to1_852_38_alg».proof.Proof.SpecIdx
import proofs.«205366_g3083786518796_cont_9to1_852_38_alg».proof.Proof.ScLaunch
import proofs.«205366_g3083786518796_cont_9to1_852_38_alg».proof.Proof.ScHok

import proofs.«205366_g3083786518796_cont_9to1_852_38_alg».proof.Proof.ScLaunchK
import proofs.«205366_g3083786518796_cont_9to1_852_38_alg».proof.Proof.ScHokK

noncomputable section

namespace Cert.Proof.KernelRun

open Idealize.ShloMosaic Idealize.SL.Sem Idealize.ShloMosaic.ValueIdx

variable [Cert.Kernel.Facts] [Cert.KernelIdeal.Facts] [Cert.Pre_input_domain.Facts]

/-- The result array the idealized kernel ends with: the kernel-order network of the argument arrays. -/
def kerOut (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v17) :=
  let a := fun (b : Ref Cert.KernelIdeal.sig .tc) => m ((c.tc : Thread Cert.KernelIdeal.nD Cert.KernelIdeal.τ).loc b)
  fun i : Cert.KernelIdeal.S10000x128.Idx =>
    Cert.Spec.netKer (Cert.SpecIdx.nbOf (a Cert.KernelIdeal.main_arg1)) (Cert.SpecIdx.matOf (a Cert.KernelIdeal.main_arg0))
      (Cert.SpecIdx.wOf (a Cert.KernelIdeal.main_arg2)) (Cert.SpecIdx.wOf (a Cert.KernelIdeal.main_arg3)) (Cert.SpecIdx.wOf (a Cert.KernelIdeal.main_arg4)) (Cert.SpecIdx.bOf (a Cert.KernelIdeal.main_arg5))
      (Cert.SpecIdx.wOf (a Cert.KernelIdeal.main_arg6)) (Cert.SpecIdx.wOf (a Cert.KernelIdeal.main_arg7)) (Cert.SpecIdx.wOf (a Cert.KernelIdeal.main_arg8)) (Cert.SpecIdx.bOf (a Cert.KernelIdeal.main_arg9))
      (Cert.SpecIdx.wOf (a Cert.KernelIdeal.main_arg10)) (Cert.SpecIdx.wOf (a Cert.KernelIdeal.main_arg11)) (Cert.SpecIdx.wOf (a Cert.KernelIdeal.main_arg12)) (Cert.SpecIdx.bOf (a Cert.KernelIdeal.main_arg13))
      (i 0) (i 1)

/-- The program's result array, read at the extended reals, is the kernel-order network of the argument arrays. -/
theorem res_eq (m : (ℓ : Loc Cert.KernelIdeal.nD Cert.KernelIdeal.τ Cert.KernelIdeal.sig) → Buf (Elt Ideal) ℓ) (c : Dev Cert.KernelIdeal.nD) :
    Cert.Proof.KI.wrRes c (Cert.Proof.KI.ResOf (F := Ideal) m c) = kerOut m c := by
  funext i
  have h := congrFun (congrFun (Cert.Proof.KI.resOf_ideal m c) (i 0)) (i 1)
  have hi : Cert.Proof.KI.ResOf (F := Ideal) m c i = Cert.SpecIdx.matOf (Cert.Proof.KI.ResOf (F := Ideal) m c) (i 0) (i 1) :=
    congrArg (Cert.Proof.KI.ResOf (F := Ideal) m c) (eq_ix2 i)
  exact hi.trans h

/-- THE IDEALIZED KERNEL'S RUN: from any memory of which the input-domain predicate holds, every weakly fair execution
    terminates with the result array at the kernel-order network of the arguments and the arguments unchanged. -/
theorem run_ideal (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (Cert.KernelIdeal.threads (F := Ideal)) ⟨m, fun _ => 0, ρ⟩ (fun r => ∀ c : Dev Cert.KernelIdeal.nD,
      r.2.mem ((c.tc : Thread Cert.KernelIdeal.nD Cert.KernelIdeal.τ).loc Cert.KernelIdeal.main_v17) = kerOut m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run (Cert.KernelIdeal.defs (F := Ideal)) _ _).mono (fun _ h c => ⟨(h c).1.trans (res_eq m c), (h c).2⟩)
    (Cert.Proof.KI.run_main (F := Ideal) m ρ (Cert.Proof.KI.idxOk_of_pre m hpre))

/-- THE KERNEL'S RUN AT THE WORD LEVEL: it terminates and leaves the argument arrays unchanged. -/
theorem run_bits (m : (ℓ : Loc Cert.Kernel.nD Cert.Kernel.τ Cert.Kernel.sig) → Buf (Elt Bits) ℓ) (ρ : Dev Cert.Kernel.nD → PrngReg)
    (hpre : Cert.Pre_Kernel m) :
    θ_run (Cert.Kernel.defs (F := Bits)) (Cert.Kernel.threads (F := Bits)) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)) :=
  (θ_run (Cert.Kernel.defs (F := Bits)) _ _).mono (fun _ h c => (h c).2)
    (Cert.Proof.KB.run_main (F := Bits) m ρ (Cert.Proof.KB.idxOk_of_pre m hpre))

end Cert.Proof.KernelRun

end
-- ==== Proof.RefTerms.lean ====
/-
  The reference program's result as a pure function of its arguments.  One layer is the same 54 operations three
  times over: two transposed-weight products of the features, the gather of the neighbour rows (with the index
  normalisation and the range mask jnp.take prints), their sum over the 32 neighbours divided by 32, the third
  product, the three sums, the bias, ELU.  `layerTerm` is that composition; the program's result is `layerTerm`
  three times over the neighbour table cut out of the edge array.
-/
import proofs.«205366_g3083786518796_cont_9to1_852_38_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.SL.Sem

variable {F : FTy → Type} [FloatOps F]

/-! ## The pure terms -/

/-- Row 1 of the edge array, flattened and cut into rows of 32: the [10000,32] neighbour table. -/
def nbTerm (edge : IVec S2x320000 32) : IVec S10000x32 32 :=
  shapeCast S10000x32 (shapeCast S320000 (extractStridedSlice S1x320000 ![1, 0] edge slices_S2x320000_S1x320000_1_0)
    shapeCasts_S1x320000_S320000) shapeCasts_S320000_S10000x32

/-- The gather's start indices: a negative entry of the table is moved up by 10000, and the table is given a
    trailing axis of length one. -/
def takeIdx (nb : IVec S10000x32 32) : IVec S10000x32x1 32 :=
  broadcastInDim S10000x32x1 ![0, 1] bcast_S10000x32_S10000x32x1_0_1
    (select (cmpi .slt nb (broadcastInDim S10000x32 ![] bcast_S_S10000x32 (constantI S_ 32 0#32)))
      (addi nb (broadcastInDim S10000x32 ![] bcast_S_S10000x32 (constantI S_ 32 10000#32))) nb)

/-- The range mask: the start index lies in 0 … 9999. -/
def takeOk (nb : IVec S10000x32 32) : IVec S10000x32 1 :=
  Host.reduce IntOp.andi
    (andi (cmpi .sge (takeIdx nb) (broadcastInDim S10000x32x1 ![] bcast_S_S10000x32x1 (constantI S_ 32 0#32)))
      (cmpi .sle (takeIdx nb) (broadcastInDim S10000x32x1 ![0, 1, 2] bcast_S1x1x1_S10000x32x1_0_1_2
        (broadcastInDim S1x1x1 ![2] bcast_S1_S1x1x1_2 (constantI S1 32 9999#32)))))
    (constantI S_ 1 1#1) reducesTo_S10000x32x1_S10000x32_d2 h_S_

/-- The neighbour rows: the gathered row where the index is in range, the NaN fill elsewhere. -/
def takeTerm (h : FVec F S10000x128 .f32) (nb : IVec S10000x32 32) : FVec F S10000x32x128 .f32 :=
  select (broadcastInDim S10000x32x128 ![0, 1] bcast_S10000x32_S10000x32x128_0_1 (takeOk nb))
    (Host.gather gather_S10000x128_S10000x32x1_S10000x32x128_2_0_n_n_0_2_1128 h (takeIdx nb))
    (broadcastInDim S10000x32x128 ![] bcast_S_S10000x32x128 (constant S_ .f32 0x7FC00000#32 : FVec F S_ .f32))

/-- ELU as the program spells it: `a` where `a > 0`, else 1 · expm1 of the argument made safe (0 where `a > 0`). -/
def eluTerm (a : FVec F S10000x128 .f32) : FVec F S10000x128 .f32 :=
  select (cmpf .ogt a (broadcastInDim S10000x128 ![] bcast_S_S10000x128 (constant S_ .f32 0x00000000#32 : FVec F S_ .f32)))
    a
    (mulf (broadcastInDim S10000x128 ![] bcast_S_S10000x128 (constant S_ .f32 0x3F800000#32 : FVec F S_ .f32))
      (Host.expm1 (select (cmpf .ogt a (broadcastInDim S10000x128 ![] bcast_S_S10000x128 (constant S_ .f32 0x00000000#32 : FVec F S_ .f32)))
        (broadcastInDim S10000x128 ![] bcast_S_S10000x128 (id (constant S_ .f32 0x00000000#32 : FVec F S_ .f32))) a)))

/-- One layer: ELU( ((mean of the neighbour rows)·Wlᵀ + h·Wsᵀ) + h·Wgᵀ + bias ). -/
def layerTerm (h : FVec F S10000x128 .f32) (nb : IVec S10000x32 32) (Wg Wl Ws : FVec F S128x128 .f32) (b : FVec F S128 .f32) :
    FVec F S10000x128 .f32 :=
  eluTerm (addf (addf (addf
    (Host.dotGeneral dot_S10000x128_S128x128_S10000x128_1_0_0_1_n_n none
      (Host.divf (Host.reduceAdd (takeTerm h nb) (constant S_ .f32 0x00000000#32 : FVec F S_ .f32) reducesTo_S10000x32x128_S10000x128_d1 h_S_)
        (broadcastInDim S10000x128 ![] bcast_S_S10000x128 (constant S_ .f32 0x42000000#32 : FVec F S_ .f32)))
      (transpose S128x128 [1, 0] Wl transposes_S128x128_S128x128_1_0))
    (Host.dotGeneral dot_S10000x128_S128x128_S10000x128_1_0_0_1_n_n none h (transpose S128x128 [1, 0] Ws transposes_S128x128_S128x128_1_0)))
    (Host.dotGeneral dot_S10000x128_S128x128_S10000x128_1_0_0_1_n_n none h (transpose S128x128 [1, 0] Wg transposes_S128x128_S128x128_1_0)))
    (broadcastInDim S10000x128 ![0, 1] bcast_S1x128_S10000x128_0_1 (broadcastInDim S1x128 ![1] bcast_S128_S1x128_1 b)))

/-- The three layers over the one neighbour table. -/
def refTerm (x : FVec F S10000x128 .f32) (edge : IVec S2x320000 32) (Wg0 Wl0 Ws0 : FVec F S128x128 .f32) (b0 : FVec F S128 .f32)
    (Wg1 Wl1 Ws1 : FVec F S128x128 .f32) (b1 : FVec F S128 .f32) (Wg2 Wl2 Ws2 : FVec F S128x128 .f32) (b2 : FVec F S128 .f32) :
    FVec F S10000x128 .f32 :=
  layerTerm (layerTerm (layerTerm x (nbTerm edge) Wg0 Wl0 Ws0 b0) (nbTerm edge) Wg1 Wl1 Ws1 b1) (nbTerm edge) Wg2 Wl2 Ws2 b2

/-- The program's result at the ideal instance, as a function of its fourteen arguments. -/
def refOut (x : FVec Ideal S10000x128 .f32) (edge : IVec S2x320000 32) (Wg0 Wl0 Ws0 : FVec Ideal S128x128 .f32) (b0 : FVec Ideal S128 .f32)
    (Wg1 Wl1 Ws1 : FVec Ideal S128x128 .f32) (b1 : FVec Ideal S128 .f32) (Wg2 Wl2 Ws2 : FVec Ideal S128x128 .f32) (b2 : FVec Ideal S128 .f32) :
    FVec Ideal S10000x128 .f32 :=
  refTerm (F := Ideal) x edge Wg0 Wl0 Ws0 b0 Wg1 Wl1 Ws1 b1 Wg2 Wl2 Ws2 b2

end Cert.ReferenceIdeal.RefValue

end
-- ==== Proof.RefRun.lean ====
/-
  The reference program's run, read back.  Its @main is a straight line of 165 host operations once the calls of
  the outlined functions are unfolded: three that cut row 1 out of the edge array and reshape it to the
  [10000,32] neighbour table, then three times the same 54 operations of one layer (two transposed-weight products
  of the features, the gather of the neighbour rows with its index normalisation and range mask, their sum over
  the 32 neighbours divided by 32, the third product, the three sums, the bias, ELU).  The operations are listed
  window by window; each layer window's result is the pure function `layerTerm` (of the terms' module) of the
  window's six inputs, so the program's result is `layerTerm` composed three times over the neighbour table.
-/
import proofs.«205366_g3083786518796_cont_9to1_852_38_alg».proof.Proof.RefTerms
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The operations, window by window -/

/-- Operations 0 … 2 of @main with its calls unfolded. -/
abbrev opsPre : List (HloOp τ sig (Elt F)) :=
  [ unary main_arg1 main_v0 ((extractStridedSlice S1x320000 ![1, 0] · slices_S2x320000_S1x320000_1_0) : (⟨S2x320000, .i32⟩ : BufTy).Contents (Elt F) → (⟨S1x320000, .i32⟩ : BufTy).Contents (Elt F)),
    reshape main_v0 main_v1 rfl shapeCasts_S1x320000_S320000,
    reshape main_v1 main_v2 rfl shapeCasts_S320000_S10000x32 ]

/-- The buffers those operations write. -/
abbrev opsPre_W : List (Ref sig .tc) :=
  [main_v0, main_v1, main_v2]

/-- Operations 3 … 56 of @main with its calls unfolded. -/
abbrev opsL0 : List (HloOp τ sig (Elt F)) :=
  [ unary main_arg2 main_v3 ((transpose S128x128 [1, 0] · transposes_S128x128_S128x128_1_0) : (⟨S128x128, .f32⟩ : BufTy).Contents (Elt F) → (⟨S128x128, .f32⟩ : BufTy).Contents (Elt F)),
    binary main_arg0 main_v3 main_v4 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    TRef.nullary main_call0.c (constantI S_ 32 0#32),
    TRef.unary main_call0.c main_call0.v0 (broadcastInDim S10000x32 ![] bcast_S_S10000x32),
    TRef.binary (.of main_v2) main_call0.v0 main_call0.v1 (cmpi .slt),
    TRef.nullary main_call0.c_0 (constantI S_ 32 10000#32),
    TRef.unary main_call0.c_0 main_call0.v2 (broadcastInDim S10000x32 ![] bcast_S_S10000x32),
    TRef.binary (.of main_v2) main_call0.v2 main_call0.v3 addi,
    TRef.ternary main_call0.v1 main_call0.v3 (.of main_v2) main_call0.call0.v0 select,
    TRef.unary main_call0.call0.v0 main_call0.v5 (broadcastInDim S10000x32x1 ![0, 1] bcast_S10000x32_S10000x32x1_0_1),
    TRef.nullary main_call0.c_1 (constantI S1 32 9999#32),
    TRef.nullary main_call0.c_2 (constantI S_ 32 0#32),
    TRef.unary main_call0.c_2 main_call0.v6 (broadcastInDim S10000x32x1 ![] bcast_S_S10000x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S10000x32x1 ![0, 1, 2] bcast_S1x1x1_S10000x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S10000x32x1_S10000x32_d2 h_S_),
    TRef.binary (.of main_arg0) main_call0.v5 main_call0.v13 (fun x i => Host.gather gather_S10000x128_S10000x32x1_S10000x32x128_2_0_n_n_0_2_1128 x i),
    TRef.unary main_call0.v12 main_call0.v14 (broadcastInDim S10000x32x128 ![0, 1] bcast_S10000x32_S10000x32x128_0_1),
    TRef.nullary main_call0.cst (constant S_ .f32 0x7FC00000#32),
    TRef.unary main_call0.cst main_call0.v15 (broadcastInDim S10000x32x128 ![] bcast_S_S10000x32x128),
    TRef.ternary main_call0.v14 main_call0.v13 main_call0.v15 main_call0.v16 select,
    nullary main_cst (constant S_ .f32 0x00000000#32),
    binary main_v5 main_cst main_v6 ((fun x v => Host.reduceAdd x v reducesTo_S10000x32x128_S10000x128_d1 h_S_) : (⟨S10000x32x128, .f32⟩ : BufTy).Contents (Elt F) → (⟨S_, .f32⟩ : BufTy).Contents (Elt F) → (⟨S10000x128, .f32⟩ : BufTy).Contents (Elt F)),
    nullary main_cst_0 (constant S_ .f32 0x42000000#32),
    unary main_cst_0 main_v7 (broadcastInDim S10000x128 ![] bcast_S_S10000x128 : (⟨S_, .f32⟩ : BufTy).Contents (Elt F) → (⟨S10000x128, .f32⟩ : BufTy).Contents (Elt F)),
    binary main_v6 main_v7 main_v8 (Host.divf : (⟨S10000x128, .f32⟩ : BufTy).Contents (Elt F) → (⟨S10000x128, .f32⟩ : BufTy).Contents (Elt F) → (⟨S10000x128, .f32⟩ : BufTy).Contents (Elt F)),
    unary main_arg3 main_v9 ((transpose S128x128 [1, 0] · transposes_S128x128_S128x128_1_0) : (⟨S128x128, .f32⟩ : BufTy).Contents (Elt F) → (⟨S128x128, .f32⟩ : BufTy).Contents (Elt F)),
    binary main_v8 main_v9 main_v10 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg4 main_v11 ((transpose S128x128 [1, 0] · transposes_S128x128_S128x128_1_0) : (⟨S128x128, .f32⟩ : BufTy).Contents (Elt F) → (⟨S128x128, .f32⟩ : BufTy).Contents (Elt F)),
    binary main_arg0 main_v11 main_v12 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v10 main_v12 main_v13 (addf : (⟨S10000x128, .f32⟩ : BufTy).Contents (Elt F) → (⟨S10000x128, .f32⟩ : BufTy).Contents (Elt F) → (⟨S10000x128, .f32⟩ : BufTy).Contents (Elt F)),
    binary main_v13 main_v4 main_v14 (addf : (⟨S10000x128, .f32⟩ : BufTy).Contents (Elt F) → (⟨S10000x128, .f32⟩ : BufTy).Contents (Elt F) → (⟨S10000x128, .f32⟩ : BufTy).Contents (Elt F)),
    unary main_arg5 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v14 main_v16 main_v17 (addf : (⟨S10000x128, .f32⟩ : BufTy).Contents (Elt F) → (⟨S10000x128, .f32⟩ : BufTy).Contents (Elt F) → (⟨S10000x128, .f32⟩ : BufTy).Contents (Elt F)),
    TRef.nullary main_call1.cst (constant S_ .f32 0x00000000#32),
    TRef.unary main_call1.cst main_call1.v0 (broadcastInDim S10000x128 ![] bcast_S_S10000x128),
    TRef.binary (.of main_v17) main_call1.v0 main_call1.v1 (cmpf .ogt),
    TRef.nullary main_call1.cst_0 (constant S_ .f32 0x00000000#32),
    TRef.unary main_call1.cst_0 main_call1.v2 (broadcastInDim S10000x128 ![] bcast_S_S10000x128),
    TRef.binary (.of main_v17) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S10000x128 ![] bcast_S_S10000x128),
    TRef.ternary main_call1.v3 main_call1.call0.v1 (.of main_v17) main_call1.call0.v2 select,
    TRef.unary main_call1.call0.v2 main_call1.v5 Host.expm1,
    TRef.nullary main_call1.cst_2 (constant S_ .f32 0x3F800000#32),
    TRef.unary main_call1.cst_2 main_call1.v6 (broadcastInDim S10000x128 ![] bcast_S_S10000x128),
    TRef.binary main_call1.v6 main_call1.v5 main_call1.v7 mulf,
    TRef.ternary main_call1.v1 (.of main_v17) main_call1.v7 main_call1.call1.v0 select ]

/-- The buffers those operations write. -/
abbrev opsL0_W : List (Ref sig .tc) :=
  [main_v3, main_v4, main_call0_c, main_call0_v0, main_call0_v1, main_call0_c_0, main_call0_v2, main_call0_v3,
   main_call0_v4, main_call0_v5, main_call0_c_1, main_call0_c_2, main_call0_v6, main_call0_v7, main_call0_v8, main_call0_v9,
   main_call0_v10, main_call0_v11, main_call0_c_3, main_call0_v12, main_call0_v13, main_call0_v14, main_call0_cst, main_call0_v15,
   main_v5, main_cst, main_v6, main_cst_0, main_v7, main_v8, main_v9, main_v10,
   main_v11, main_v12, main_v13, main_v14, main_v15, main_v16, main_v17, main_call1_cst,
   main_call1_v0, main_call1_v1, main_call1_cst_0, main_call1_v2, main_call1_v3, main_call1_cst_1, main_call1_call0_v0, main_call1_call0_v1,
   main_call1_v4, main_call1_v5, main_call1_cst_2, main_call1_v6, main_call1_v7, main_v18]

/-- Operations 57 … 110 of @main with its calls unfolded. -/
abbrev opsL1 : List (HloOp τ sig (Elt F)) :=
  [ unary main_arg6 main_v19 ((transpose S128x128 [1, 0] · transposes_S128x128_S128x128_1_0) : (⟨S128x128, .f32⟩ : BufTy).Contents (Elt F) → (⟨S128x128, .f32⟩ : BufTy).Contents (Elt F)),
    binary main_v18 main_v19 main_v20 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    TRef.nullary main_call2.c (constantI S_ 32 0#32),
    TRef.unary main_call2.c main_call2.v0 (broadcastInDim S10000x32 ![] bcast_S_S10000x32),
    TRef.binary (.of main_v2) main_call2.v0 main_call2.v1 (cmpi .slt),
    TRef.nullary main_call2.c_0 (constantI S_ 32 10000#32),
    TRef.unary main_call2.c_0 main_call2.v2 (broadcastInDim S10000x32 ![] bcast_S_S10000x32),
    TRef.binary (.of main_v2) main_call2.v2 main_call2.v3 addi,
    TRef.ternary main_call2.v1 main_call2.v3 (.of main_v2) main_call2.call0.v0 select,
    TRef.unary main_call2.call0.v0 main_call2.v5 (broadcastInDim S10000x32x1 ![0, 1] bcast_S10000x32_S10000x32x1_0_1),
    TRef.nullary main_call2.c_1 (constantI S1 32 9999#32),
    TRef.nullary main_call2.c_2 (constantI S_ 32 0#32),
    TRef.unary main_call2.c_2 main_call2.v6 (broadcastInDim S10000x32x1 ![] bcast_S_S10000x32x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S10000x32x1 ![0, 1, 2] bcast_S1x1x1_S10000x32x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S10000x32x1_S10000x32_d2 h_S_),
    TRef.binary (.of main_v18) main_call2.v5 main_call2.v13 (fun x i => Host.gather gather_S10000x128_S10000x32x1_S10000x32x128_2_0_n_n_0_2_1128 x i),
    TRef.unary main_call2.v12 main_call2.v14 (broadcastInDim S10000x32x128 ![0, 1] bcast_S10000x32_S10000x32x128_0_1),
    TRef.nullary main_call2.cst (constant S_ .f32 0x7FC00000#32),
    TRef.unary main_call2.cst main_call2.v15 (broadcastInDim S10000x32x128 ![] bcast_S_S10000x32x128),
    TRef.ternary main_call2.v14 main_call2.v13 main_call2.v15 main_call2.v16 select,
    nullary main_cst_1 (constant S_ .f32 0x00000000#32),
    binary main_v21 main_cst_1 main_v22 ((fun x v => Host.reduceAdd x v reducesTo_S10000x32x128_S10000x128_d1 h_S_) : (⟨S10000x32x128, .f32⟩ : BufTy).Contents (Elt F) → (⟨S_, .f32⟩ : BufTy).Contents (Elt F) → (⟨S10000x128, .f32⟩ : BufTy).Contents (Elt F)),
    nullary main_cst_2 (constant S_ .f32 0x42000000#32),
    unary main_cst_2 main_v23 (broadcastInDim S10000x128 ![] bcast_S_S10000x128 : (⟨S_, .f32⟩ : BufTy).Contents (Elt F) → (⟨S10000x128, .f32⟩ : BufTy).Contents (Elt F)),
    binary main_v22 main_v23 main_v24 (Host.divf : (⟨S10000x128, .f32⟩ : BufTy).Contents (Elt F) → (⟨S10000x128, .f32⟩ : BufTy).Contents (Elt F) → (⟨S10000x128, .f32⟩ : BufTy).Contents (Elt F)),
    unary main_arg7 main_v25 ((transpose S128x128 [1, 0] · transposes_S128x128_S128x128_1_0) : (⟨S128x128, .f32⟩ : BufTy).Contents (Elt F) → (⟨S128x128, .f32⟩ : BufTy).Contents (Elt F)),
    binary main_v24 main_v25 main_v26 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg8 main_v27 ((transpose S128x128 [1, 0] · transposes_S128x128_S128x128_1_0) : (⟨S128x128, .f32⟩ : BufTy).Contents (Elt F) → (⟨S128x128, .f32⟩ : BufTy).Contents (Elt F)),
    binary main_v18 main_v27 main_v28 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v26 main_v28 main_v29 (addf : (⟨S10000x128, .f32⟩ : BufTy).Contents (Elt F) → (⟨S10000x128, .f32⟩ : BufTy).Contents (Elt F) → (⟨S10000x128, .f32⟩ : BufTy).Contents (Elt F)),
    binary main_v29 main_v20 main_v30 (addf : (⟨S10000x128, .f32⟩ : BufTy).Contents (Elt F) → (⟨S10000x128, .f32⟩ : BufTy).Contents (Elt F) → (⟨S10000x128, .f32⟩ : BufTy).Contents (Elt F)),
    unary main_arg9 main_v31 (broadcastInDim S1x128 ![1] bcast_S128_S1x128_1 : (⟨S128, .f32⟩ : BufTy).Contents (Elt F) → (⟨S1x128, .f32⟩ : BufTy).Contents (Elt F)),
    unary main_v31 main_v32 (broadcastInDim S10000x128 ![0, 1] bcast_S1x128_S10000x128_0_1 : (⟨S1x128, .f32⟩ : BufTy).Contents (Elt F) → (⟨S10000x128, .f32⟩ : BufTy).Contents (Elt F)),
    binary main_v30 main_v32 main_v33 (addf : (⟨S10000x128, .f32⟩ : BufTy).Contents (Elt F) → (⟨S10000x128, .f32⟩ : BufTy).Contents (Elt F) → (⟨S10000x128, .f32⟩ : BufTy).Contents (Elt F)),
    TRef.nullary main_call3.cst (constant S_ .f32 0x00000000#32),
    TRef.unary main_call3.cst main_call3.v0 (broadcastInDim S10000x128 ![] bcast_S_S10000x128),
    TRef.binary (.of main_v33) main_call3.v0 main_call3.v1 (cmpf .ogt),
    TRef.nullary main_call3.cst_0 (constant S_ .f32 0x00000000#32),
    TRef.unary main_call3.cst_0 main_call3.v2 (broadcastInDim S10000x128 ![] bcast_S_S10000x128),
    TRef.binary (.of main_v33) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S10000x128 ![] bcast_S_S10000x128),
    TRef.ternary main_call3.v3 main_call3.call0.v1 (.of main_v33) main_call3.call0.v2 select,
    TRef.unary main_call3.call0.v2 main_call3.v5 Host.expm1,
    TRef.nullary main_call3.cst_2 (constant S_ .f32 0x3F800000#32),
    TRef.unary main_call3.cst_2 main_call3.v6 (broadcastInDim S10000x128 ![] bcast_S_S10000x128),
    TRef.binary main_call3.v6 main_call3.v5 main_call3.v7 mulf,
    TRef.ternary main_call3.v1 (.of main_v33) main_call3.v7 main_call3.call1.v0 select ]

/-- The buffers those operations write. -/
abbrev opsL1_W : List (Ref sig .tc) :=
  [main_v19, main_v20, main_call2_c, main_call2_v0, main_call2_v1, main_call2_c_0, main_call2_v2, main_call2_v3,
   main_call2_v4, main_call2_v5, main_call2_c_1, main_call2_c_2, main_call2_v6, main_call2_v7, main_call2_v8, main_call2_v9,
   main_call2_v10, main_call2_v11, main_call2_c_3, main_call2_v12, main_call2_v13, main_call2_v14, main_call2_cst, main_call2_v15,
   main_v21, main_cst_1, main_v22, main_cst_2, main_v23, main_v24, main_v25, main_v26,
   main_v27, main_v28, main_v29, main_v30, main_v31, main_v32, main_v33, main_call3_cst,
   main_call3_v0, main_call3_v1, main_call3_cst_0, main_call3_v2, main_call3_v3, main_call3_cst_1, main_call3_call0_v0, main_call3_call0_v1,
   main_call3_v4, main_call3_v5, main_call3_cst_2, main_call3_v6, main_call3_v7, main_v34]

/-- Operations 111 … 164 of @main with its calls unfolded. -/
abbrev opsL2 : List (HloOp τ sig (Elt F)) :=
  [ unary main_arg10 main_v35 ((transpose S128x128 [1, 0] · transposes_S128x128_S128x128_1_0) : (⟨S128x128, .f32⟩ : BufTy).Contents (Elt F) → (⟨S128x128, .f32⟩ : BufTy).Contents (Elt F)),
    binary main_v34 main_v35 main_v36 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    TRef.nullary main_call4.c (constantI S_ 32 0#32),
    TRef.unary main_call4.c main_call4.v0 (broadcastInDim S10000x32 ![] bcast_S_S10000x32),
    TRef.binary (.of main_v2) main_call4.v0 main_call4.v1 (cmpi .slt),
    TRef.nullary main_call4.c_0 (constantI S_ 32 10000#32),
    TRef.unary main_call4.c_0 main_call4.v2 (broadcastInDim S10000x32 ![] bcast_S_S10000x32),
    TRef.binary (.of main_v2) main_call4.v2 main_call4.v3 addi,
    TRef.ternary main_call4.v1 main_call4.v3 (.of main_v2) main_call4.call0.v0 select,
    TRef.unary main_call4.call0.v0 main_call4.v5 (broadcastInDim S10000x32x1 ![0, 1] bcast_S10000x32_S10000x32x1_0_1),
    TRef.nullary main_call4.c_1 (constantI S1 32 9999#32),
    TRef.nullary main_call4.c_2 (constantI S_ 32 0#32),
    TRef.unary main_call4.c_2 main_call4.v6 (broadcastInDim S10000x32x1 ![] bcast_S_S10000x32x1),
    TRef.binary main_call4.v5 main_call4.v6 main_call4.v7 (cmpi .sge),
    TRef.unary main_call4.c_1 main_call4.v8 (broadcastInDim S1x1x1 ![2] bcast_S1_S1x1x1_2),
    TRef.unary main_call4.v8 main_call4.v9 (broadcastInDim S10000x32x1 ![0, 1, 2] bcast_S1x1x1_S10000x32x1_0_1_2),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S10000x32x1_S10000x32_d2 h_S_),
    TRef.binary (.of main_v34) main_call4.v5 main_call4.v13 (fun x i => Host.gather gather_S10000x128_S10000x32x1_S10000x32x128_2_0_n_n_0_2_1128 x i),
    TRef.unary main_call4.v12 main_call4.v14 (broadcastInDim S10000x32x128 ![0, 1] bcast_S10000x32_S10000x32x128_0_1),
    TRef.nullary main_call4.cst (constant S_ .f32 0x7FC00000#32),
    TRef.unary main_call4.cst main_call4.v15 (broadcastInDim S10000x32x128 ![] bcast_S_S10000x32x128),
    TRef.ternary main_call4.v14 main_call4.v13 main_call4.v15 main_call4.v16 select,
    nullary main_cst_3 (constant S_ .f32 0x00000000#32),
    binary main_v37 main_cst_3 main_v38 ((fun x v => Host.reduceAdd x v reducesTo_S10000x32x128_S10000x128_d1 h_S_) : (⟨S10000x32x128, .f32⟩ : BufTy).Contents (Elt F) → (⟨S_, .f32⟩ : BufTy).Contents (Elt F) → (⟨S10000x128, .f32⟩ : BufTy).Contents (Elt F)),
    nullary main_cst_4 (constant S_ .f32 0x42000000#32),
    unary main_cst_4 main_v39 (broadcastInDim S10000x128 ![] bcast_S_S10000x128 : (⟨S_, .f32⟩ : BufTy).Contents (Elt F) → (⟨S10000x128, .f32⟩ : BufTy).Contents (Elt F)),
    binary main_v38 main_v39 main_v40 (Host.divf : (⟨S10000x128, .f32⟩ : BufTy).Contents (Elt F) → (⟨S10000x128, .f32⟩ : BufTy).Contents (Elt F) → (⟨S10000x128, .f32⟩ : BufTy).Contents (Elt F)),
    unary main_arg11 main_v41 ((transpose S128x128 [1, 0] · transposes_S128x128_S128x128_1_0) : (⟨S128x128, .f32⟩ : BufTy).Contents (Elt F) → (⟨S128x128, .f32⟩ : BufTy).Contents (Elt F)),
    binary main_v40 main_v41 main_v42 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg12 main_v43 ((transpose S128x128 [1, 0] · transposes_S128x128_S128x128_1_0) : (⟨S128x128, .f32⟩ : BufTy).Contents (Elt F) → (⟨S128x128, .f32⟩ : BufTy).Contents (Elt F)),
    binary main_v34 main_v43 main_v44 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v42 main_v44 main_v45 (addf : (⟨S10000x128, .f32⟩ : BufTy).Contents (Elt F) → (⟨S10000x128, .f32⟩ : BufTy).Contents (Elt F) → (⟨S10000x128, .f32⟩ : BufTy).Contents (Elt F)),
    binary main_v45 main_v36 main_v46 (addf : (⟨S10000x128, .f32⟩ : BufTy).Contents (Elt F) → (⟨S10000x128, .f32⟩ : BufTy).Contents (Elt F) → (⟨S10000x128, .f32⟩ : BufTy).Contents (Elt F)),
    unary main_arg13 main_v47 (broadcastInDim S1x128 ![1] bcast_S128_S1x128_1 : (⟨S128, .f32⟩ : BufTy).Contents (Elt F) → (⟨S1x128, .f32⟩ : BufTy).Contents (Elt F)),
    unary main_v47 main_v48 (broadcastInDim S10000x128 ![0, 1] bcast_S1x128_S10000x128_0_1 : (⟨S1x128, .f32⟩ : BufTy).Contents (Elt F) → (⟨S10000x128, .f32⟩ : BufTy).Contents (Elt F)),
    binary main_v46 main_v48 main_v49 (addf : (⟨S10000x128, .f32⟩ : BufTy).Contents (Elt F) → (⟨S10000x128, .f32⟩ : BufTy).Contents (Elt F) → (⟨S10000x128, .f32⟩ : BufTy).Contents (Elt F)),
    TRef.nullary main_call5.cst (constant S_ .f32 0x00000000#32),
    TRef.unary main_call5.cst main_call5.v0 (broadcastInDim S10000x128 ![] bcast_S_S10000x128),
    TRef.binary (.of main_v49) main_call5.v0 main_call5.v1 (cmpf .ogt),
    TRef.nullary main_call5.cst_0 (constant S_ .f32 0x00000000#32),
    TRef.unary main_call5.cst_0 main_call5.v2 (broadcastInDim S10000x128 ![] bcast_S_S10000x128),
    TRef.binary (.of main_v49) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S10000x128 ![] bcast_S_S10000x128),
    TRef.ternary main_call5.v3 main_call5.call0.v1 (.of main_v49) main_call5.call0.v2 select,
    TRef.unary main_call5.call0.v2 main_call5.v5 Host.expm1,
    TRef.nullary main_call5.cst_2 (constant S_ .f32 0x3F800000#32),
    TRef.unary main_call5.cst_2 main_call5.v6 (broadcastInDim S10000x128 ![] bcast_S_S10000x128),
    TRef.binary main_call5.v6 main_call5.v5 main_call5.v7 mulf,
    TRef.ternary main_call5.v1 (.of main_v49) main_call5.v7 main_call5.call1.v0 select ]

/-- The buffers those operations write. -/
abbrev opsL2_W : List (Ref sig .tc) :=
  [main_v35, main_v36, main_call4_c, main_call4_v0, main_call4_v1, main_call4_c_0, main_call4_v2, main_call4_v3,
   main_call4_v4, main_call4_v5, main_call4_c_1, main_call4_c_2, main_call4_v6, main_call4_v7, main_call4_v8, main_call4_v9,
   main_call4_v10, main_call4_v11, main_call4_c_3, main_call4_v12, main_call4_v13, main_call4_v14, main_call4_cst, main_call4_v15,
   main_v37, main_cst_3, main_v38, main_cst_4, main_v39, main_v40, main_v41, main_v42,
   main_v43, main_v44, main_v45, main_v46, main_v47, main_v48, main_v49, main_call5_cst,
   main_call5_v0, main_call5_v1, main_call5_cst_0, main_call5_v2, main_call5_v3, main_call5_cst_1, main_call5_call0_v0, main_call5_call0_v1,
   main_call5_v4, main_call5_v5, main_call5_cst_2, main_call5_v6, main_call5_v7, main_v50]

/-- @main's operations, in order. -/
abbrev ops : List (HloOp τ sig (Elt F)) := opsPre ++ opsL0 ++ opsL1 ++ opsL2

set_option maxRecDepth 16384 in
set_option maxHeartbeats 4000000 in
/-- @main is that straight line: the functions' bodies unfolded at their calls, the sequencing reassociated. -/
theorem main_eq (c : Dev nD) : main (F := F) c = seq ops := by
  simp only [main, fn_take.body, fn_take_2.body, fn_elu.body, fn_where.body, fn_where_0.body, fn_where_1.body, ops, seq_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsPre_sub : (opsPre : List (HloOp τ sig (Elt F))).Forall fun op => op.bufs ⊆ tcRefs τ sig :=
  ⟨unary_bufs_sub .., reshape_bufs_sub .., reshape_bufs_sub ..⟩

theorem opsL0_sub : (opsL0 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., binary_bufs_sub .., nullary_bufs_sub .., unary_bufs_sub .., binary_bufs_sub ..,
    unary_bufs_sub .., binary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

theorem opsL1_sub : (opsL1 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., binary_bufs_sub .., nullary_bufs_sub .., unary_bufs_sub .., binary_bufs_sub ..,
    unary_bufs_sub .., binary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

theorem opsL2_sub : (opsL2 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., binary_bufs_sub .., nullary_bufs_sub .., unary_bufs_sub .., binary_bufs_sub ..,
    unary_bufs_sub .., binary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

theorem ops_sub : (ops : List (HloOp τ sig (Elt F))).Forall fun op => op.bufs ⊆ tcRefs τ sig :=
  List.forall_iff_forall_mem.mpr fun op h => by
    simp only [ops, List.mem_append] at h
    rcases h with ((h | h) | h) | h
    exacts [List.forall_iff_forall_mem.mp opsPre_sub op h, List.forall_iff_forall_mem.mp opsL0_sub op h,
      List.forall_iff_forall_mem.mp opsL1_sub op h, List.forall_iff_forall_mem.mp opsL2_sub op h]

/-- A fold over two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## Each window read back -/

theorem opsPre_writes : (opsPre : List (HloOp τ sig (Elt F))).Forall fun op => op.writes ⊆ (opsPre_W.map (Proc.devRef (τ := τ) .tc)).toFinset := by
  simp only [List.Forall]
  refine ⟨?_, ?_, ?_⟩ <;>
    (simp only [nullary_writes, unary_writes, binary_writes, ternary_writes, reshape_writes, Finset.singleton_subset_iff, List.mem_toFinset]; exact List.mem_map_of_mem (by decide))

/-- A buffer the window does not write keeps its contents through it. -/
theorem opsPre_keep (V : Valuation τ sig (Elt F)) (r : Ref sig .tc) (h : r ∉ opsPre_W) :
    after opsPre V (Proc.devRef .tc r) = V (Proc.devRef .tc r) :=
  after_of_writes_sub opsPre V opsPre_writes h

theorem opsL0_writes : (opsL0 : List (HloOp τ sig (Elt F))).Forall fun op => op.writes ⊆ (opsL0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- A buffer the window does not write keeps its contents through it. -/
theorem opsL0_keep (V : Valuation τ sig (Elt F)) (r : Ref sig .tc) (h : r ∉ opsL0_W) :
    after opsL0 V (Proc.devRef .tc r) = V (Proc.devRef .tc r) :=
  after_of_writes_sub opsL0 V opsL0_writes h

theorem opsL1_writes : (opsL1 : List (HloOp τ sig (Elt F))).Forall fun op => op.writes ⊆ (opsL1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- A buffer the window does not write keeps its contents through it. -/
theorem opsL1_keep (V : Valuation τ sig (Elt F)) (r : Ref sig .tc) (h : r ∉ opsL1_W) :
    after opsL1 V (Proc.devRef .tc r) = V (Proc.devRef .tc r) :=
  after_of_writes_sub opsL1 V opsL1_writes h

theorem opsL2_writes : (opsL2 : List (HloOp τ sig (Elt F))).Forall fun op => op.writes ⊆ (opsL2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- A buffer the window does not write keeps its contents through it. -/
theorem opsL2_keep (V : Valuation τ sig (Elt F)) (r : Ref sig .tc) (h : r ∉ opsL2_W) :
    after opsL2 V (Proc.devRef .tc r) = V (Proc.devRef .tc r) :=
  after_of_writes_sub opsL2 V opsL2_writes h

/-- The first window leaves the neighbour table. -/
theorem opsPre_out (V : Valuation τ sig (Elt F)) :
    after opsPre V (Proc.devRef .tc main_v2) = nbTerm (V (Proc.devRef .tc main_arg1)) := by
  simp only [opsPre]
  after_results_simp
  rfl

attribute [local irreducible] Host.reduce Host.gather Host.reduceAdd in
set_option maxRecDepth 16384 in
set_option maxHeartbeats 4000000 in
/-- A layer window leaves `layerTerm` of its six inputs. -/
theorem opsL0_out (V : Valuation τ sig (Elt F)) :
    after opsL0 V (Proc.devRef .tc main_v18)
      = layerTerm (V (Proc.devRef .tc main_arg0)) (V (Proc.devRef .tc main_v2)) (V (Proc.devRef .tc main_arg2)) (V (Proc.devRef .tc main_arg3)) (V (Proc.devRef .tc main_arg4)) (V (Proc.devRef .tc main_arg5)) := by
  simp only [opsL0]
  after_results_simp
  rfl

attribute [local irreducible] Host.reduce Host.gather Host.reduceAdd in
set_option maxRecDepth 16384 in
set_option maxHeartbeats 4000000 in
/-- A layer window leaves `layerTerm` of its six inputs. -/
theorem opsL1_out (V : Valuation τ sig (Elt F)) :
    after opsL1 V (Proc.devRef .tc main_v34)
      = layerTerm (V (Proc.devRef .tc main_v18)) (V (Proc.devRef .tc main_v2)) (V (Proc.devRef .tc main_arg6)) (V (Proc.devRef .tc main_arg7)) (V (Proc.devRef .tc main_arg8)) (V (Proc.devRef .tc main_arg9)) := by
  simp only [opsL1]
  after_results_simp
  rfl

attribute [local irreducible] Host.reduce Host.gather Host.reduceAdd in
set_option maxRecDepth 16384 in
set_option maxHeartbeats 4000000 in
/-- A layer window leaves `layerTerm` of its six inputs. -/
theorem opsL2_out (V : Valuation τ sig (Elt F)) :
    after opsL2 V (Proc.devRef .tc main_v50)
      = layerTerm (V (Proc.devRef .tc main_v34)) (V (Proc.devRef .tc main_v2)) (V (Proc.devRef .tc main_arg10)) (V (Proc.devRef .tc main_arg11)) (V (Proc.devRef .tc main_arg12)) (V (Proc.devRef .tc main_arg13)) := by
  simp only [opsL2]
  after_results_simp
  rfl

/-! ## The whole line -/

/-- The result buffer after the whole line: the three layers' composition of the arguments. -/
theorem out_eq (V : Valuation τ sig (Elt F)) :
    after ops V (Proc.devRef .tc main_v50)
      = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  simp only [ops, after_app]
  rw [opsL2_out, opsL1_out, opsL1_keep _ main_v2 (by decide), opsL1_keep _ main_arg10 (by decide), opsL1_keep _ main_arg11 (by decide), opsL1_keep _ main_arg12 (by decide), opsL1_keep _ main_arg13 (by decide),
    opsL0_out, opsL0_keep _ main_v2 (by decide), opsL0_keep _ main_arg6 (by decide), opsL0_keep _ main_arg7 (by decide), opsL0_keep _ main_arg8 (by decide), opsL0_keep _ main_arg9 (by decide), opsL0_keep _ main_arg10 (by decide), opsL0_keep _ main_arg11 (by decide), opsL0_keep _ main_arg12 (by decide), opsL0_keep _ main_arg13 (by decide),
    opsPre_out, opsPre_keep _ main_arg0 (by decide), opsPre_keep _ main_arg2 (by decide), opsPre_keep _ main_arg3 (by decide), opsPre_keep _ main_arg4 (by decide), opsPre_keep _ main_arg5 (by decide), opsPre_keep _ main_arg6 (by decide), opsPre_keep _ main_arg7 (by decide), opsPre_keep _ main_arg8 (by decide), opsPre_keep _ main_arg9 (by decide), opsPre_keep _ main_arg10 (by decide), opsPre_keep _ main_arg11 (by decide), opsPre_keep _ main_arg12 (by decide), opsPre_keep _ main_arg13 (by decide)]
  rfl

/-- An argument buffer after the whole line: unchanged. -/
theorem arg_eq (V : Valuation τ sig (Elt F)) (r : Ref sig .tc) (h0 : r ∉ (opsPre_W : List (Ref sig .tc))) (h1 : r ∉ (opsL0_W : List (Ref sig .tc)))
    (h2 : r ∉ (opsL1_W : List (Ref sig .tc))) (h3 : r ∉ (opsL2_W : List (Ref sig .tc))) :
    after ops V (Proc.devRef .tc r) = V (Proc.devRef .tc r) := by
  simp only [ops, after_app]
  rw [opsL2_keep _ r h3, opsL1_keep _ r h2, opsL0_keep _ r h1, opsPre_keep _ r h0]

/-- On every device, from any memory with zero counters: every weakly fair execution of @main terminates with the
    result buffer at `refOut` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v50) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v50).trans (out_eq (launchContents m c)),
      (h c main_arg0).trans (arg_eq (launchContents m c) main_arg0 (by decide) (by decide) (by decide) (by decide)),
      (h c main_arg1).trans (arg_eq (launchContents m c) main_arg1 (by decide) (by decide) (by decide) (by decide)),
      (h c main_arg2).trans (arg_eq (launchContents m c) main_arg2 (by decide) (by decide) (by decide) (by decide)),
      (h c main_arg3).trans (arg_eq (launchContents m c) main_arg3 (by decide) (by decide) (by decide) (by decide)),
      (h c main_arg4).trans (arg_eq (launchContents m c) main_arg4 (by decide) (by decide) (by decide) (by decide)),
      (h c main_arg5).trans (arg_eq (launchContents m c) main_arg5 (by decide) (by decide) (by decide) (by decide)),
      (h c main_arg6).trans (arg_eq (launchContents m c) main_arg6 (by decide) (by decide) (by decide) (by decide)),
      (h c main_arg7).trans (arg_eq (launchContents m c) main_arg7 (by decide) (by decide) (by decide) (by decide)),
      (h c main_arg8).trans (arg_eq (launchContents m c) main_arg8 (by decide) (by decide) (by decide) (by decide)),
      (h c main_arg9).trans (arg_eq (launchContents m c) main_arg9 (by decide) (by decide) (by decide) (by decide)),
      (h c main_arg10).trans (arg_eq (launchContents m c) main_arg10 (by decide) (by decide) (by decide) (by decide)),
      (h c main_arg11).trans (arg_eq (launchContents m c) main_arg11 (by decide) (by decide) (by decide) (by decide)),
      (h c main_arg12).trans (arg_eq (launchContents m c) main_arg12 (by decide) (by decide) (by decide) (by decide)),
      (h c main_arg13).trans (arg_eq (launchContents m c) main_arg13 (by decide) (by decide) (by decide) (by decide))⟩)
    (run_seq scopedRefs_eq scopedSems_eq defs main (fun _ => ops) main_eq (fun _ => ops_sub) m ρ)

end Cert.ReferenceIdeal.RefValue

end
-- ==== Proof.RefFrame.lean ====
/-
  The reference runs and leaves its fourteen argument arrays unchanged: the run's post says so beside the result's
  value, so the claim is that post weakened to its "unchanged" half.  (The precondition on the inputs is not used: the
  straight line of host operations terminates from any memory.)
-/
import proofs.«205366_g3083786518796_cont_9to1_852_38_alg».proof.Defs
import proofs.«205366_g3083786518796_cont_9to1_852_38_alg».proof.Proof.RefRun

noncomputable section

namespace Cert.ReferenceIdeal.RefValue

open Idealize.ShloMosaic Idealize.SL.Sem

theorem frame_ri [Cert.ReferenceIdeal.Facts] [Cert.Pre_input_domain.Facts] : Cert.frame_ReferenceIdeal :=
  fun m ρ _ => (θ_run Cert.ReferenceIdeal.defs _ _).mono (fun _ h c => (h c).2) (run m ρ)

end Cert.ReferenceIdeal.RefValue

end
-- ==== Proof.RefRead.lean ====
/-
  The reference's result read element by element.  Under the condition that every entry of the edge array lies in
  0 … 9999, each operation of one layer is read at an index: the index normalisation of the gather is the identity
  and its range mask is on, so the gather reads the neighbour's row; the reduction over the 32 neighbours is a finite
  sum from zero; the division is by the real number 32; each product with a transposed weight matrix is the sum over
  the 128 input features; the bias is read at the output feature; ELU is the specification's.  One layer is then the
  specification's `layerRef`, and the three layers its `netRef`.
-/
import proofs.«205366_g3083786518796_cont_9to1_852_38_alg».proof.Proof.RefTerms
import proofs.«205366_g3083786518796_cont_9to1_852_38_alg».proof.Proof.SpecIdx
import Idealize.ShloMosaic.Lib.ValueIdx
import Idealize.ShloMosaic.Lib.Pipeline.Value
import Idealize.ShloMosaic.PureOps.Ideal.Laws
import Idealize.ShloMosaic.Lib.IdealHost
import Idealize.ShloMosaic.Lib.ReduceAll

noncomputable section

namespace Cert.ReferenceIdeal.RefRead

open Cert.ReferenceIdeal Cert.ReferenceIdeal.Gen Cert.ReferenceIdeal.RefValue Idealize.ShloMosaic Cert.SpecIdx
open Idealize.ShloMosaic.ValueIdx hiding takeIdx
open scoped BigOperators

/-- The neighbour table at (n, k) is row 1 of the edge array at column 32·n + k: the flattening and the cut into rows of
    32 keep the row-major position. -/
theorem nbTerm_apply (edge : IVec S2x320000 32) (n : Fin 10000) (k : Fin 32) :
    nbTerm edge (ix2 n k) = edge (ix2 (1 : Fin 2) ⟨n.val * 32 + k.val, by omega⟩) := by
  unfold nbTerm
  rw [shapeCast_apply _ _ (ix2 n k) (ix1 ⟨n.val * 32 + k.val, by omega⟩) (by rw [Shape.rowMajor_val_one, Shape.rowMajor_val_two]; rfl)]
  rw [shapeCast_apply _ _ _ (ix2 (0 : Fin 1) ⟨n.val * 32 + k.val, by omega⟩) (by rw [Shape.rowMajor_val_two, Shape.rowMajor_val_one]; simp)]
  exact extractStridedSlice_apply _ _ _ _ _ (fun a => by
    match a with
    | ⟨0, _⟩ => rfl
    | ⟨1, _⟩ => simp)

/-- A word that is not negative is not below zero in the signed order. -/
theorem slt_zero_false (x : BitVec 32) (h0 : (0 : Int) ≤ x.toInt) : x.slt 0#32 = false := by
  rw [BitVec.slt, decide_eq_false_iff_not]
  simpa using h0

/-- The gather's start index at (n, k, 0) is the table's entry when that entry is not negative (no wrap-around). -/
theorem takeIdx_apply (nb : IVec S10000x32 32) (n : Fin 10000) (k : Fin 32) (c : Fin 1)
    (h0 : (0 : Int) ≤ (nb (ix2 n k)).toInt) :
    takeIdx nb (ix3 n k c) = nb (ix2 n k) := by
  unfold takeIdx
  rw [broadcastInDim_apply _ _ _ (ix3 n k c) (ix2 n k) (fun a => by
    match a with
    | ⟨0, _⟩ => rfl
    | ⟨1, _⟩ => rfl)]
  rw [select_apply]
  have hz : cmpi .slt nb (broadcastInDim S10000x32 ![] bcast_S_S10000x32 (constantI S_ 32 0#32)) (ix2 n k) = 0#1 := by
    show BitVec.ofBool ((nb (ix2 n k)).slt (broadcastInDim S10000x32 ![] bcast_S_S10000x32 (constantI S_ 32 0#32) (ix2 n k))) = 0#1
    rw [broadcastInDim_scalar_apply]
    show BitVec.ofBool ((nb (ix2 n k)).slt 0#32) = 0#1
    rw [slt_zero_false _ h0]; rfl
  rw [hz, select_zero]

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l (fun n hn => h n (List.mem_cons_of_mem _ hn))

/-- A word that is at most 9999 in the signed order. -/
theorem sle_9999_true (x : BitVec 32) (h1 : x.toInt ≤ 9999) : x.sle 9999#32 = true := by
  rw [BitVec.sle, decide_eq_true_iff]
  simpa using h1

/-- Zero is at most a word that is not negative, in the signed order. -/
theorem zero_sle_true (x : BitVec 32) (h0 : (0 : Int) ≤ x.toInt) : (0#32).sle x = true := by
  rw [BitVec.sle, decide_eq_true_iff]
  simpa using h0

/-- Under the range condition the range mask is on everywhere: the `and` over the unit axis of "0 ≤ index ≤ 9999". -/
theorem takeOk_apply (nb : IVec S10000x32 32)
    (hnb : ∀ n k, (0 : Int) ≤ (nb (ix2 n k)).toInt ∧ (nb (ix2 n k)).toInt ≤ 9999) (j : S10000x32.Idx) :
    takeOk nb j = 1#1 := by
  unfold takeOk
  rw [Host.reduce_eq_foldl]
  show List.foldl _ 1#1 _ = 1#1
  refine foldl_andi_one _ _ (fun i _ => ?_)
  obtain ⟨a, b, c, rfl⟩ : ∃ a b c, i = ix3 a b c := ⟨_, _, _, eq_ix3 i⟩
  obtain ⟨h0, h1⟩ := hnb a b
  show IntOp.andi (BitVec.ofBool ((broadcastInDim S10000x32x1 ![] bcast_S_S10000x32x1 (constantI S_ 32 0#32) (ix3 a b c)).sle (takeIdx nb (ix3 a b c))))
      (BitVec.ofBool ((takeIdx nb (ix3 a b c)).sle (broadcastInDim S10000x32x1 ![0, 1, 2] bcast_S1x1x1_S10000x32x1_0_1_2
        (broadcastInDim S1x1x1 ![2] bcast_S1_S1x1x1_2 (constantI S1 32 9999#32)) (ix3 a b c)))) = 1#1
  rw [takeIdx_apply nb a b c h0, broadcastInDim_scalar_apply]
  show IntOp.andi (BitVec.ofBool ((0#32).sle (nb (ix2 a b)))) (BitVec.ofBool ((nb (ix2 a b)).sle 9999#32)) = 1#1
  rw [zero_sle_true _ h0, sle_9999_true _ h1]; rfl

/-- The row gather read at (n, k, j): the operand's row at the start index `idx[n, k, 0]`, read signed and clamped
    into 0 … 9999, at column j. -/
theorem gather_rows_apply {α : Type} (x : S10000x128.Idx → α) (idx : IVec S10000x32x1 32) (n : Fin 10000) (k : Fin 32) (j : Fin 128) :
    Host.gather gather_S10000x128_S10000x32x1_S10000x32x128_2_0_n_n_0_2_1128 x idx (ix3 n k j)
      = x (ix2 ⟨min (idx (ix3 n k (0 : Fin 1))).toInt.toNat 9999, by omega⟩ j) := by
  unfold Host.gather
  congr 1
  funext a
  refine Fin.ext ?_
  match a with
  | ⟨0, _⟩ =>
    show gather_S10000x128_S10000x32x1_S10000x32x128_2_0_n_n_0_2_1128.start (ix3 n k j) idx 0
      + gather_S10000x128_S10000x32x1_S10000x32x128_2_0_n_n_0_2_1128.batchCoord (ix3 n k j) 0
      + gather_S10000x128_S10000x32x1_S10000x32x128_2_0_n_n_0_2_1128.offCoord (ix3 n k j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S10000x32x1_S10000x32x128_2_0_n_n_0_2_1128.startIndexMap from List.mem_singleton.mpr rfl)]
    have hsi : gather_S10000x128_S10000x32x1_S10000x32x128_2_0_n_n_0_2_1128.siIdx (ix3 n k j)
        ⟨List.idxOf (0 : Fin 2) gather_S10000x128_S10000x32x1_S10000x32x128_2_0_n_n_0_2_1128.startIndexMap,
          List.idxOf_lt_length_iff.2 (List.mem_singleton.mpr rfl)⟩ = ix3 n k (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S10000x128_S10000x32x1_S10000x32x128_2_0_n_n_0_2_1128.start (ix3 n k j) idx 1
      + gather_S10000x128_S10000x32x1_S10000x32x128_2_0_n_n_0_2_1128.batchCoord (ix3 n k j) 1
      + gather_S10000x128_S10000x32x1_S10000x32x128_2_0_n_n_0_2_1128.offCoord (ix3 n k j) 1 = j.val
    rw [GatherDims.batchCoord_eq_zero _ _ _ List.not_mem_nil]
    have hs : gather_S10000x128_S10000x32x1_S10000x32x128_2_0_n_n_0_2_1128.start (ix3 n k j) idx 1 = 0 := by
      unfold GatherDims.start
      rw [dif_neg (show (1 : Fin 2) ∉ gather_S10000x128_S10000x32x1_S10000x32x128_2_0_n_n_0_2_1128.startIndexMap from by decide)]
    rw [hs]
    simp only [Nat.add_zero, Nat.zero_add]
    rfl

/-- A word in 0 … 9999: read signed and clamped it is its natural-number value, which is below 10000. -/
theorem toNat_of_range (x : BitVec 32) (h0 : (0 : Int) ≤ x.toInt) (h1 : x.toInt ≤ 9999) :
    min x.toInt.toNat 9999 = x.toNat % 10000 := by
  have hc := BitVec.toInt_eq_toNat_cond x
  have hlt := x.isLt
  split at hc <;> omega

/-- The neighbour rows at (n, k, j): under the range condition the mask is on and the gather reads row `nb[n, k]`. -/
theorem takeTerm_apply (h : FVec Ideal S10000x128 .f32) (nb : IVec S10000x32 32)
    (hnb : ∀ n k, (0 : Int) ≤ (nb (ix2 n k)).toInt ∧ (nb (ix2 n k)).toInt ≤ 9999) (n : Fin 10000) (k : Fin 32) (j : Fin 128) :
    takeTerm (F := Ideal) h nb (ix3 n k j) = h (ix2 ⟨(nb (ix2 n k)).toNat % 10000, Nat.mod_lt _ (by decide)⟩ j) := by
  unfold takeTerm
  rw [select_apply, broadcastInDim_apply _ _ _ (ix3 n k j) (ix2 n k) (fun a => by
    match a with
    | ⟨0, _⟩ => rfl
    | ⟨1, _⟩ => rfl)]
  rw [takeOk_apply nb hnb, select_one, gather_rows_apply]
  refine congrArg (fun r : Fin 10000 => h (ix2 r j)) (Fin.ext ?_)
  show min (takeIdx nb (ix3 n k 0)).toInt.toNat 9999 = (nb (ix2 n k)).toNat % 10000
  rw [takeIdx_apply nb n k 0 (hnb n k).1]
  exact toNat_of_range _ (hnb n k).1 (hnb n k).2

/-- The sum over the 32 neighbours, from the zero initial value. -/
theorem sumNbr_apply (X : FVec Ideal S10000x32x128 .f32) (n : Fin 10000) (j : Fin 128) :
    Host.reduceAdd X (constant S_ .f32 0x00000000#32 : FVec Ideal S_ .f32) reducesTo_S10000x32x128_S10000x128_d1 h_S_ (ix2 n j)
      = ∑ k : Fin 32, X (ix3 n k j) := by
  rw [hostReduceAdd_apply, Ideal.hostReduceAdd_single _ (by decide : S10000x32x128.Reduces [1] S10000x128)]
  rw [constant_apply, Ideal.ofBits_zero_f32, zero_add]
  refine Finset.sum_congr rfl (fun k _ => congrArg X ?_)
  funext a; refine Fin.ext ?_
  match a with
  | ⟨0, _⟩ => rfl
  | ⟨1, _⟩ => rfl
  | ⟨2, _⟩ => rfl

/-- The f32 word 0x42000000 is the real number 32. -/
theorem ofBits_32 : Ideal.ofBits .f32 0x42000000#32 = ((32 : ℝ) : EReal) := by
  simp [Ideal.ofBits, Ideal.ieee, -EReal.coe_mul]; norm_num

/-- A [10000,128] × [128,128] product contracting the left operand's columns with the right operand's rows. -/
theorem dot_apply (l : FVec Ideal S10000x128 .f32) (r : FVec Ideal S128x128 .f32) (n : Fin 10000) (o : Fin 128) :
    Host.dotGeneral dot_S10000x128_S128x128_S10000x128_1_0_0_1_n_n none l r (ix2 n o) = ∑ j : Fin 128, l (ix2 n j) * r (ix2 j o) := by
  simp only [Host.dotGeneral]
  rw [Ideal.dotGeneral_apply]
  rw [← Equiv.sum_comp (contrEquiv1 dot_S10000x128_S128x128_S10000x128_1_0_0_1_n_n 128 rfl rfl).symm]
  refine Finset.sum_congr rfl (fun j _ => ?_)
  congr 2
  · funext a; refine Fin.ext ?_
    match a with
    | ⟨0, _⟩ => rfl
    | ⟨1, _⟩ => rfl
  · funext a; refine Fin.ext ?_
    match a with
    | ⟨0, _⟩ => rfl
    | ⟨1, _⟩ => rfl

/-- The weights transposed. -/
theorem transposeW_apply (W : FVec Ideal S128x128 .f32) (j o : Fin 128) :
    transpose S128x128 [1, 0] W transposes_S128x128_S128x128_1_0 (ix2 j o) = W (ix2 o j) :=
  transpose_apply _ _ _ _ (ix2 o j) (fun b => by
    match b with
    | ⟨0, _⟩ => rfl
    | ⟨1, _⟩ => rfl)

/-- The bias vector as a row, repeated over the rows. -/
theorem bias_apply (b : FVec Ideal S128 .f32) (n : Fin 10000) (o : Fin 128) :
    broadcastInDim S10000x128 ![0, 1] bcast_S1x128_S10000x128_0_1 (broadcastInDim S1x128 ![1] bcast_S128_S1x128_1 b) (ix2 n o) = b (ix1 o) := by
  rw [broadcastInDim_apply _ _ _ (ix2 n o) (ix2 (0 : Fin 1) o) (fun a => by
    match a with
    | ⟨0, _⟩ => rfl
    | ⟨1, _⟩ => rfl)]
  exact broadcastInDim_apply _ _ _ _ (ix1 o) (fun a => by
    match a with
    | ⟨0, _⟩ => rfl)

/-- A select on "x > 0" is the `if`. -/
theorem select_gt_zero {α : Type} (x : EReal) (A B : α) :
    Scalar.select (FloatOps.cmpf (F := Ideal) (φ := .f32) .ogt x 0) A B = if 0 < x then A else B := by
  show (if BitVec.ofBool (decide (0 < x)) = 1#1 then A else B) = _
  by_cases h : 0 < x <;> simp [h]

/-- The zero splat reads zero. -/
theorem zeroSplat_apply (i : S10000x128.Idx) :
    broadcastInDim S10000x128 ![] bcast_S_S10000x128 (constant S_ .f32 0x00000000#32 : FVec Ideal S_ .f32) i = 0 := by
  rw [broadcastInDim_scalar_apply, constant_apply, Ideal.ofBits_zero_f32]

/-- ELU at an element. -/
theorem eluTerm_apply (a : FVec Ideal S10000x128 .f32) (i : S10000x128.Idx) :
    eluTerm (F := Ideal) a i = Cert.Spec.eluRef (a i) := by
  unfold eluTerm Cert.Spec.eluRef
  rw [select_apply, cmpf_apply, mulf_apply, zeroSplat_apply, select_gt_zero]
  show (if 0 < a i then a i else
    broadcastInDim S10000x128 ![] bcast_S_S10000x128 (constant S_ .f32 0x3F800000#32 : FVec Ideal S_ .f32) i
      * FloatOps.hostUnary .expm1 (select (cmpf .ogt a (broadcastInDim S10000x128 ![] bcast_S_S10000x128 (constant S_ .f32 0x00000000#32 : FVec Ideal S_ .f32)))
          (broadcastInDim S10000x128 ![] bcast_S_S10000x128 (constant S_ .f32 0x00000000#32 : FVec Ideal S_ .f32)) a i)) = _
  rw [broadcastInDim_scalar_apply, constant_apply, Ideal.ofBits_one_f32, Ideal.hostUnary_expm1_def, select_apply, cmpf_apply,
    zeroSplat_apply, select_gt_zero]

/-- ONE LAYER AT AN ELEMENT: under the range condition on the neighbour table the layer's term is the
    specification's layer over the table read as natural numbers. -/
theorem layerTerm_apply (h : FVec Ideal S10000x128 .f32) (nb : IVec S10000x32 32) (Wg Wl Ws : FVec Ideal S128x128 .f32)
    (b : FVec Ideal S128 .f32) (hnb : ∀ n k, (0 : Int) ≤ (nb (ix2 n k)).toInt ∧ (nb (ix2 n k)).toInt ≤ 9999)
    (n : Fin 10000) (o : Fin 128) :
    layerTerm (F := Ideal) h nb Wg Wl Ws b (ix2 n o)
      = Cert.Spec.layerRef (fun n k => ⟨(nb (ix2 n k)).toNat % 10000, Nat.mod_lt _ (by decide)⟩) (matOf h) (wOf Wg) (wOf Wl) (wOf Ws)
          (bOf b) n o := by
  unfold layerTerm Cert.Spec.layerRef
  rw [eluTerm_apply, addf_apply, addf_apply, addf_apply, dot_apply, dot_apply, dot_apply, bias_apply]
  have e1 : ∀ j : Fin 128,
      Host.divf (Host.reduceAdd (takeTerm (F := Ideal) h nb) (constant S_ .f32 0x00000000#32 : FVec Ideal S_ .f32)
          reducesTo_S10000x32x128_S10000x128_d1 h_S_)
        (broadcastInDim S10000x128 ![] bcast_S_S10000x128 (constant S_ .f32 0x42000000#32 : FVec Ideal S_ .f32)) (ix2 n j)
        * transpose S128x128 [1, 0] Wl transposes_S128x128_S128x128_1_0 (ix2 j o)
      = Ideal.div (Cert.Spec.agg (fun n k => ⟨(nb (ix2 n k)).toNat % 10000, Nat.mod_lt _ (by decide)⟩) (matOf h) n j) Cert.Spec.c32
        * wOf Wl o j := fun j => by
    rw [transposeW_apply, hostDivf_apply, sumNbr_apply, broadcastInDim_scalar_apply, constant_apply, ofBits_32,
      Finset.sum_congr rfl (fun k _ => takeTerm_apply h nb hnb n k j)]
    rfl
  have e2 : ∀ (W : FVec Ideal S128x128 .f32) (j : Fin 128),
      h (ix2 n j) * transpose S128x128 [1, 0] W transposes_S128x128_S128x128_1_0 (ix2 j o) = matOf h n j * wOf W o j := fun W j => by
    rw [transposeW_apply]; rfl
  rw [Finset.sum_congr rfl (fun j _ => e1 j), Finset.sum_congr rfl (fun j _ => e2 Ws j), Finset.sum_congr rfl (fun j _ => e2 Wg j)]
  rfl

/-- THE REFERENCE IS THE SPECIFICATION, element by element, when every entry of the edge array lies in 0 … 9999. -/
theorem refOut_apply (x : FVec Ideal S10000x128 .f32) (edge : IVec S2x320000 32)
    (Wg0 Wl0 Ws0 : FVec Ideal S128x128 .f32) (b0 : FVec Ideal S128 .f32)
    (Wg1 Wl1 Ws1 : FVec Ideal S128x128 .f32) (b1 : FVec Ideal S128 .f32)
    (Wg2 Wl2 Ws2 : FVec Ideal S128x128 .f32) (b2 : FVec Ideal S128 .f32)
    (hrange : ∀ i, (0 : Int) ≤ (edge i).toInt ∧ (edge i).toInt ≤ 9999) (n : Fin 10000) (o : Fin 128) :
    refOut x edge Wg0 Wl0 Ws0 b0 Wg1 Wl1 Ws1 b1 Wg2 Wl2 Ws2 b2 (ix2 n o)
      = Cert.Spec.netRef (nbOf edge) (matOf x) (wOf Wg0) (wOf Wl0) (wOf Ws0) (bOf b0) (wOf Wg1) (wOf Wl1) (wOf Ws1) (bOf b1)
          (wOf Wg2) (wOf Wl2) (wOf Ws2) (bOf b2) n o := by
  have hnb : ∀ n k, (0 : Int) ≤ (nbTerm edge (ix2 n k)).toInt ∧ (nbTerm edge (ix2 n k)).toInt ≤ 9999 := fun n k => by
    rw [nbTerm_apply]; exact hrange _
  have hN : (fun n k => ⟨(nbTerm edge (ix2 n k)).toNat % 10000, Nat.mod_lt _ (by decide)⟩ : Cert.Spec.Nbr) = nbOf edge := by
    funext n k
    refine Fin.ext ?_
    show (nbTerm edge (ix2 n k)).toNat % 10000 = _
    rw [nbTerm_apply]
    rfl
  have L : ∀ (h : FVec Ideal S10000x128 .f32) (Wg Wl Ws : FVec Ideal S128x128 .f32) (b : FVec Ideal S128 .f32),
      matOf (layerTerm (F := Ideal) h (nbTerm edge) Wg Wl Ws b)
        = Cert.Spec.layerRef (nbOf edge) (matOf h) (wOf Wg) (wOf Wl) (wOf Ws) (bOf b) := fun h Wg Wl Ws b => by
    funext n o
    show layerTerm (F := Ideal) h (nbTerm edge) Wg Wl Ws b (ix2 n o) = _
    rw [layerTerm_apply h (nbTerm edge) Wg Wl Ws b hnb, hN]
  show matOf (refOut x edge Wg0 Wl0 Ws0 b0 Wg1 Wl1 Ws1 b1 Wg2 Wl2 Ws2 b2) n o = _
  unfold refOut refTerm Cert.Spec.netRef
  rw [L, L, L]

end Cert.ReferenceIdeal.RefRead

end
-- ==== Proof.SpecLaw.lean ====
/-
  The two spellings of the layer agree on finite inputs.

  Every entry of the inputs is a real number, so every sum and product below is a real number, and the
  coercion ℝ → EReal commutes with finite sums, sums of two, and products.  Division by the real 32 is the
  product with the real 1/32.  After pushing the coercion to the outside, the argument of ELU on either side
  is the coercion of ONE real number; the two real expressions differ by distributivity, associativity and
  commutativity only.  The two spellings of ELU agree on every extended real: where the argument is positive
  both return it, elsewhere the "safe" argument is the argument itself and 1 · y = y.  ELU of a real number
  is a real number, so finiteness carries through the layers.
-/
import proofs.«205366_g3083786518796_cont_9to1_852_38_alg».proof.Proof.Spec

noncomputable section

namespace Cert.Spec

open Idealize.ShloMosaic
open scoped BigOperators

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two spellings of ELU agree everywhere. -/
theorem elu_eq (a : EReal) : eluRef a = eluKer a := by
  unfold eluRef eluKer
  by_cases h : 0 < a
  · rw [if_pos h, if_pos h]
  · rw [if_neg h, if_neg h, if_neg h, one_mul]

/-- ELU of a real number is a real number. -/
theorem eluKer_real (r : ℝ) : ∃ s : ℝ, eluKer (r : EReal) = (s : EReal) := by
  unfold eluKer
  by_cases h : (0 : EReal) < (r : EReal)
  · exact ⟨r, by rw [if_pos h]⟩
  · refine ⟨Real.exp r - 1, ?_⟩
    rw [if_neg h, Ideal.exp_coe, EReal.coe_sub, EReal.coe_one]

/-- The real number under the ELU, in the kernel's arrangement. -/
def argR (nb : Nbr) (hr : Fin 10000 → Fin 128 → ℝ) (wg wl ws : Fin 128 → Fin 128 → ℝ) (br : Fin 128 → ℝ)
    (n : Fin 10000) (o : Fin 128) : ℝ :=
  ((∑ j : Fin 128, hr n j * (wg o j + ws o j)) + (∑ j : Fin 128, (∑ k : Fin 32, hr (nb n k) j) * (wl o j * (1 / 32))))
    + br o

/-- The argument of the kernel's ELU is the coercion of `argR`. -/
theorem kerArg_coe (nb : Nbr) (h : Mat 10000 128) (Wg Wl Ws : Mat 128 128) (b : Fin 128 → EReal)
    (hr : Fin 10000 → Fin 128 → ℝ) (wg wl ws : Fin 128 → Fin 128 → ℝ) (br : Fin 128 → ℝ)
    (hh : ∀ i j, h i j = (hr i j : EReal)) (hWg : ∀ i j, Wg i j = (wg i j : EReal))
    (hWl : ∀ i j, Wl i j = (wl i j : EReal)) (hWs : ∀ i j, Ws i j = (ws i j : EReal))
    (hb : ∀ i, b i = (br i : EReal)) (n : Fin 10000) (o : Fin 128) :
    (((∑ j : Fin 128, h n j * (Wg o j + Ws o j)) + (∑ j : Fin 128, agg nb h n j * (Wl o j * inv32))) + b o)
      = ((argR nb hr wg wl ws br n o : ℝ) : EReal) := by
  simp only [agg, inv32, hh, hWg, hWl, hWs, hb, ← EReal.coe_add, ← EReal.coe_mul, ← coe_sum]
  rfl

/-- The argument of the reference's ELU is the coercion of the same `argR`. -/
theorem refArg_coe (nb : Nbr) (h : Mat 10000 128) (Wg Wl Ws : Mat 128 128) (b : Fin 128 → EReal)
    (hr : Fin 10000 → Fin 128 → ℝ) (wg wl ws : Fin 128 → Fin 128 → ℝ) (br : Fin 128 → ℝ)
    (hh : ∀ i j, h i j = (hr i j : EReal)) (hWg : ∀ i j, Wg i j = (wg i j : EReal))
    (hWl : ∀ i j, Wl i j = (wl i j : EReal)) (hWs : ∀ i j, Ws i j = (ws i j : EReal))
    (hb : ∀ i, b i = (br i : EReal)) (n : Fin 10000) (o : Fin 128) :
    ((((∑ j : Fin 128, Ideal.div (agg nb h n j) c32 * Wl o j) + (∑ j : Fin 128, h n j * Ws o j))
      + (∑ j : Fin 128, h n j * Wg o j)) + b o)
      = ((argR nb hr wg wl ws br n o : ℝ) : EReal) := by
  have h32 : (32 : ℝ) ≠ 0 := by norm_num
  simp only [agg, c32, Ideal.div_coe h32, hh, hWg, hWl, hWs, hb, ← EReal.coe_add, ← EReal.coe_mul, ← coe_sum]
  rw [EReal.coe_eq_coe_iff]
  unfold argR
  have e : ∀ j : Fin 128, (∑ k : Fin 32, hr (nb n k) j) * (1 / 32) * wl o j
      = (∑ k : Fin 32, hr (nb n k) j) * (wl o j * (1 / 32)) := fun j => by ring
  simp only [e, mul_add, Finset.sum_add_distrib]
  ring

/-- On finite inputs the reference's layer is the kernel's layer. -/
theorem layer_eq (nb : Nbr) (h : Mat 10000 128) (Wg Wl Ws : Mat 128 128) (b : Fin 128 → EReal)
    (hh : FiniteM h) (hWg : FiniteM Wg) (hWl : FiniteM Wl) (hWs : FiniteM Ws) (hb : FiniteV b) :
    layerRef nb h Wg Wl Ws b = layerKer nb h Wg Wl Ws b := by
  have hh' : ∀ i j, ∃ r : ℝ, h i j = (r : EReal) := hh
  have hWg' : ∀ i j, ∃ r : ℝ, Wg i j = (r : EReal) := hWg
  have hWl' : ∀ i j, ∃ r : ℝ, Wl i j = (r : EReal) := hWl
  have hWs' : ∀ i j, ∃ r : ℝ, Ws i j = (r : EReal) := hWs
  have hb' : ∀ i, ∃ r : ℝ, b i = (r : EReal) := hb
  choose hr hhr using hh'
  choose wg hwg using hWg'
  choose wl hwl using hWl'
  choose ws hws using hWs'
  choose br hbr using hb'
  funext n o
  unfold layerRef layerKer
  rw [refArg_coe nb h Wg Wl Ws b hr wg wl ws br hhr hwg hwl hws hbr n o,
    kerArg_coe nb h Wg Wl Ws b hr wg wl ws br hhr hwg hwl hws hbr n o]
  exact elu_eq _

/-- On finite inputs the kernel's layer is finite. -/
theorem layerKer_finite (nb : Nbr) (h : Mat 10000 128) (Wg Wl Ws : Mat 128 128) (b : Fin 128 → EReal)
    (hh : FiniteM h) (hWg : FiniteM Wg) (hWl : FiniteM Wl) (hWs : FiniteM Ws) (hb : FiniteV b) :
    FiniteM (layerKer nb h Wg Wl Ws b) := by
  have hh' : ∀ i j, ∃ r : ℝ, h i j = (r : EReal) := hh
  have hWg' : ∀ i j, ∃ r : ℝ, Wg i j = (r : EReal) := hWg
  have hWl' : ∀ i j, ∃ r : ℝ, Wl i j = (r : EReal) := hWl
  have hWs' : ∀ i j, ∃ r : ℝ, Ws i j = (r : EReal) := hWs
  have hb' : ∀ i, ∃ r : ℝ, b i = (r : EReal) := hb
  choose hr hhr using hh'
  choose wg hwg using hWg'
  choose wl hwl using hWl'
  choose ws hws using hWs'
  choose br hbr using hb'
  intro n o
  unfold layerKer
  rw [kerArg_coe nb h Wg Wl Ws b hr wg wl ws br hhr hwg hwl hws hbr n o]
  exact eluKer_real _

/-- On finite inputs the three reference layers are the three kernel layers. -/
theorem net_eq (nb : Nbr) (x : Mat 10000 128) (Wg0 Wl0 Ws0 : Mat 128 128) (b0 : Fin 128 → EReal) (Wg1 Wl1 Ws1 : Mat 128 128)
    (b1 : Fin 128 → EReal) (Wg2 Wl2 Ws2 : Mat 128 128) (b2 : Fin 128 → EReal)
    (hx : FiniteM x) (hWg0 : FiniteM Wg0) (hWl0 : FiniteM Wl0) (hWs0 : FiniteM Ws0) (hb0 : FiniteV b0)
    (hWg1 : FiniteM Wg1) (hWl1 : FiniteM Wl1) (hWs1 : FiniteM Ws1) (hb1 : FiniteV b1)
    (hWg2 : FiniteM Wg2) (hWl2 : FiniteM Wl2) (hWs2 : FiniteM Ws2) (hb2 : FiniteV b2) :
    netRef nb x Wg0 Wl0 Ws0 b0 Wg1 Wl1 Ws1 b1 Wg2 Wl2 Ws2 b2 = netKer nb x Wg0 Wl0 Ws0 b0 Wg1 Wl1 Ws1 b1 Wg2 Wl2 Ws2 b2 := by
  unfold netRef netKer
  have f0 := layerKer_finite nb x Wg0 Wl0 Ws0 b0 hx hWg0 hWl0 hWs0 hb0
  have f1 := layerKer_finite nb _ Wg1 Wl1 Ws1 b1 f0 hWg1 hWl1 hWs1 hb1
  rw [layer_eq nb x Wg0 Wl0 Ws0 b0 hx hWg0 hWl0 hWs0 hb0,
    layer_eq nb _ Wg1 Wl1 Ws1 b1 f0 hWg1 hWl1 hWs1 hb1,
    layer_eq nb _ Wg2 Wl2 Ws2 b2 f1 hWg2 hWl2 hWs2 hb2]

end Cert.Spec

end
-- ==== Proof.ValueBridge.lean ====
/-
  The agreement of the two three-layer networks, stated on the program's own arrays.

  The input-domain predicate makes every float entry a real number, so the specification-level arrays read off
  the program's arrays are finite, and the two networks agree on finite inputs.  The same predicate puts every
  edge word in 0 … 9999, so reducing it below 10000 changes nothing: the neighbour table is the edge row itself.
-/
import proofs.«205366_g3083786518796_cont_9to1_852_38_alg».proof.Proof.SpecLaw
import proofs.«205366_g3083786518796_cont_9to1_852_38_alg».proof.Proof.PreFacts
import proofs.«205366_g3083786518796_cont_9to1_852_38_alg».proof.Proof.SpecIdx

noncomputable section

namespace Cert.ValueBridge

open Idealize.ShloMosaic Cert.Pre_input_domain Cert.SpecIdx ValueIdx

/-- With every edge word in 0 … 9999 the neighbour table's entry is the word itself. -/
theorem nbOf_val (e : IVec S2x320000 32) (he : ∀ i, (0 : Int) ≤ (e i).toInt ∧ (e i).toInt ≤ 9999)
    (n : Fin 10000) (k : Fin 32) :
    ((nbOf e n k : Fin 10000) : ℕ) = (e (ix2 (1 : Fin 2) ⟨n.val * 32 + k.val, by omega⟩)).toNat :=
  Nat.mod_eq_of_lt (Cert.PreFacts.toNat_lt_of_range _ (he _)).1

variable [Facts]

/-- Under the input-domain predicate the reference's network and the kernel's network agree. -/
theorem net_agree (a0 : FVec Ideal S10000x128 .f32) (a1 : IVec S2x320000 32)
    (a2 a3 a4 : FVec Ideal S128x128 .f32) (a5 : FVec Ideal S128 .f32)
    (a6 a7 a8 : FVec Ideal S128x128 .f32) (a9 : FVec Ideal S128 .f32)
    (a10 a11 a12 : FVec Ideal S128x128 .f32) (a13 : FVec Ideal S128 .f32)
    (h : fn (F := Ideal) a0 a1 a2 a3 a4 a5 a6 a7 a8 a9 a10 a11 a12 a13 = fun _ => 1#1) :
    Cert.Spec.netRef (nbOf a1) (matOf a0) (wOf a2) (wOf a3) (wOf a4) (bOf a5) (wOf a6) (wOf a7) (wOf a8) (bOf a9)
        (wOf a10) (wOf a11) (wOf a12) (bOf a13)
      = Cert.Spec.netKer (nbOf a1) (matOf a0) (wOf a2) (wOf a3) (wOf a4) (bOf a5) (wOf a6) (wOf a7) (wOf a8) (bOf a9)
        (wOf a10) (wOf a11) (wOf a12) (bOf a13) := by
  obtain ⟨h0, h2, h3, h4, h5, h6, h7, h8, h9, h10, h11, h12, h13, _⟩ :=
    Cert.PreFacts.core a0 a1 a2 a3 a4 a5 a6 a7 a8 a9 a10 a11 a12 a13 h
  exact Cert.Spec.net_eq _ _ _ _ _ _ _ _ _ _ _ _ _ _
    (Cert.PreFacts.finiteM_matOf a0 h0) (Cert.PreFacts.finiteM_wOf a2 h2) (Cert.PreFacts.finiteM_wOf a3 h3)
    (Cert.PreFacts.finiteM_wOf a4 h4) (Cert.PreFacts.finiteV_bOf a5 h5) (Cert.PreFacts.finiteM_wOf a6 h6)
    (Cert.PreFacts.finiteM_wOf a7 h7) (Cert.PreFacts.finiteM_wOf a8 h8) (Cert.PreFacts.finiteV_bOf a9 h9)
    (Cert.PreFacts.finiteM_wOf a10 h10) (Cert.PreFacts.finiteM_wOf a11 h11) (Cert.PreFacts.finiteM_wOf a12 h12)
    (Cert.PreFacts.finiteV_bOf a13 h13)

end Cert.ValueBridge

end
-- ==== Proof.Claims.lean ====
/-
  The certificate's five claims from the runs of the three programs.

  The reference's run ends with `refOut` of its arguments, which element by element is the reference-order network
  `netRef` (every edge word lies in 0 … 9999 under the input-domain predicate); the idealized kernel's run ends with
  the kernel-order network `netKer` of its arguments.  From memories agreeing on the arguments the two results are
  equal because the two networks agree on finite inputs: x / 32 = x · (1/32), and a product distributes over a sum of
  two real numbers.  The three frame claims are the runs' "arguments unchanged" halves.
-/
import proofs.«205366_g3083786518796_cont_9to1_852_38_alg».proof.Defs
import proofs.«205366_g3083786518796_cont_9to1_852_38_alg».proof.Proof.KernelRun
import proofs.«205366_g3083786518796_cont_9to1_852_38_alg».proof.Proof.RefFrame
import proofs.«205366_g3083786518796_cont_9to1_852_38_alg».proof.Proof.RefRead
import proofs.«205366_g3083786518796_cont_9to1_852_38_alg».proof.Proof.ValueBridge
import proofs.«205366_g3083786518796_cont_9to1_852_38_alg».proof.Proof.PreFacts

noncomputable section

namespace Cert.Proof

open Idealize.ShloMosaic Idealize.SL.Sem Cert.Proof.KernelRun Cert.ReferenceIdeal.RefValue Cert.ReferenceIdeal.RefRead Cert.SpecIdx
open Idealize.ShloMosaic.ValueIdx hiding takeIdx

/-- The kernel runs and leaves its arguments unchanged. -/
theorem frame_p : Cert.frame_Kernel := fun m ρ h => run_bits m ρ h

/-- The idealized kernel runs and leaves its arguments unchanged: its run's post without the result's value. -/
theorem frame_pi : Cert.frame_KernelIdeal := fun m ρ hpre =>
  (θ_run (Cert.KernelIdeal.defs (F := Ideal)) _ _).mono (fun _ h c => (h c).2) (run_ideal m ρ hpre)

/-- THE TWO RESULTS AGREE: on one device, from memories agreeing on the fourteen arguments of which the input-domain
    predicate holds, the reference's result is the kernel-order network of the kernel's arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      = kerOut m c := by
  obtain ⟨e0, e1, e2, e3, e4, e5, e6, e7, e8, e9, e10, e11, e12, e13⟩ := hag
  rw [e0, e1, e2, e3, e4, e5, e6, e7, e8, e9, e10, e11, e12, e13]
  have hr := (Cert.PreFacts.core _ _ _ _ _ _ _ _ _ _ _ _ _ _ (hpre c)).2.2.2.2.2.2.2.2.2.2.2.2.2
  refine funext fun i => ?_
  obtain ⟨n, o, rfl⟩ : ∃ (n : Fin 10000) (o : Fin 128), i = ix2 n o := ⟨i 0, i 1, eq_ix2 i⟩
  rw [refOut_apply _ _ _ _ _ _ _ _ _ _ _ _ _ _ hr, Cert.ValueBridge.net_agree _ _ _ _ _ _ _ _ _ _ _ _ _ _ (hpre c)]
  rfl

/-- The idealized kernel and the reference, from memories agreeing on the arguments, both run and end with equal
    results and unchanged arguments. -/
theorem algebraic : Cert.algebraic_KernelIdeal_ReferenceIdeal := fun m ρ m' ρ' hpre hagree =>
  ⟨kerOut m, run_ideal m ρ hpre,
    (θ_run (Cert.ReferenceIdeal.defs (F := Ideal)) _ _).mono
      (fun _ h c => ⟨(h c).1.trans (result_eq m m' hpre c (hagree c)), (h c).2⟩) (run m' ρ')⟩

end Cert.Proof

end
-- ==== Proof.lean ====
/- Both programs compute a three-layer graph network; the reference as ELU(mean_k h[nb]·Wlᵀ + h·Wsᵀ + h·Wgᵀ + b), the kernel
   as ELU(h·(Wg+Ws)ᵀ + (Σ_k h[nb])·(Wl·(1/32))ᵀ + b): equal on finite inputs since x/32 = x·(1/32) and a product distributes
   over a sum of two real numbers (ELU keeps real numbers real, so the agreement carries through the layers). -/
import proofs.«205366_g3083786518796_cont_9to1_852_38_alg».proof.Defs
import proofs.«205366_g3083786518796_cont_9to1_852_38_alg».proof.Proof.Gen.Kernel
import proofs.«205366_g3083786518796_cont_9to1_852_38_alg».proof.Proof.Gen.Kernel.Skeleton
import proofs.«205366_g3083786518796_cont_9to1_852_38_alg».proof.Proof.Gen.Kernel.Launch
import proofs.«205366_g3083786518796_cont_9to1_852_38_alg».proof.Proof.Gen.Kernel.Regions
import proofs.«205366_g3083786518796_cont_9to1_852_38_alg».proof.Proof.Gen.Kernel.Points
import proofs.«205366_g3083786518796_cont_9to1_852_38_alg».proof.Proof.Gen.KernelIdeal
import proofs.«205366_g3083786518796_cont_9to1_852_38_alg».proof.Proof.Gen.KernelIdeal.Skeleton
import proofs.«205366_g3083786518796_cont_9to1_852_38_alg».proof.Proof.Gen.KernelIdeal.Launch
import proofs.«205366_g3083786518796_cont_9to1_852_38_alg».proof.Proof.Gen.KernelIdeal.Regions
import proofs.«205366_g3083786518796_cont_9to1_852_38_alg».proof.Proof.Gen.KernelIdeal.Points
import proofs.«205366_g3083786518796_cont_9to1_852_38_alg».proof.Proof.Gen.ReferenceIdeal
import proofs.«205366_g3083786518796_cont_9to1_852_38_alg».proof.Proof.Gen.Pre_input_domain
import proofs.«205366_g3083786518796_cont_9to1_852_38_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_input_domain.Gen.facts,
    frame_p, frame_pi, Cert.ReferenceIdeal.RefValue.frame_ri, trivial, algebraic⟩

end Cert.Proof

end
